-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v796)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v796) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2262) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S6144x1x16x16 : Shape := ⟨4, ![6144, 1, 16, 16]⟩
abbrev S256x256 : Shape := ⟨2, ![256, 256]⟩
abbrev S256x32 : Shape := ⟨2, ![256, 32]⟩
abbrev S256 : Shape := ⟨1, ![256]⟩
abbrev S4x256x8 : Shape := ⟨3, ![4, 256, 8]⟩
abbrev S16x8 : Shape := ⟨2, ![16, 8]⟩
abbrev S3x16x16 : Shape := ⟨3, ![3, 16, 16]⟩
abbrev S1x256x8 : Shape := ⟨3, ![1, 256, 8]⟩
abbrev S16x2 : Shape := ⟨2, ![16, 2]⟩
abbrev S_ : Shape := ⟨0, ![]⟩

class Facts : Prop where
  bcast_S_S6144x1x16x16 : S_.BroadcastsInDim S6144x1x16x16 (![] : Fin 0 → Fin S6144x1x16x16.rank)
  reducesTo_S6144x1x16x16_S_d0_1_2_3 : S6144x1x16x16.ReducesTo [0, 1, 2, 3] S_
  h_S_ : 0 < S_.numel
  bcast_S_S256x256 : S_.BroadcastsInDim S256x256 (![] : Fin 0 → Fin S256x256.rank)
  reducesTo_S256x256_S_d0_1 : S256x256.ReducesTo [0, 1] S_
  bcast_S_S256x32 : S_.BroadcastsInDim S256x32 (![] : Fin 0 → Fin S256x32.rank)
  reducesTo_S256x32_S_d0_1 : S256x32.ReducesTo [0, 1] S_
  bcast_S_S256 : S_.BroadcastsInDim S256 (![] : Fin 0 → Fin S256.rank)
  reducesTo_S256_S_d0 : S256.ReducesTo [0] S_
  bcast_S_S4x256x8 : S_.BroadcastsInDim S4x256x8 (![] : Fin 0 → Fin S4x256x8.rank)
  reducesTo_S4x256x8_S_d0_1_2 : S4x256x8.ReducesTo [0, 1, 2] S_
  bcast_S_S16x8 : S_.BroadcastsInDim S16x8 (![] : Fin 0 → Fin S16x8.rank)
  reducesTo_S16x8_S_d0_1 : S16x8.ReducesTo [0, 1] S_
  bcast_S_S3x16x16 : S_.BroadcastsInDim S3x16x16 (![] : Fin 0 → Fin S3x16x16.rank)
  reducesTo_S3x16x16_S_d0_1_2 : S3x16x16.ReducesTo [0, 1, 2] S_
  bcast_S_S1x256x8 : S_.BroadcastsInDim S1x256x8 (![] : Fin 0 → Fin S1x256x8.rank)
  reducesTo_S1x256x8_S_d0_1_2 : S1x256x8.ReducesTo [0, 1, 2] S_
  bcast_S_S16x2 : S_.BroadcastsInDim S16x2 (![] : Fin 0 → Fin S16x2.rank)
  reducesTo_S16x2_S_d0_1 : S16x2.ReducesTo [0, 1] S_

variable [Facts]

def fn_part3 {F : FTy → Type} [FloatOps F] (main_arg11 : FVec F S3x16x16 .f32) (main_v48 : IVec S_ 1) (main_v49 : FVec F S3x16x16 .f32) (main_v50 : FVec F S3x16x16 .f32) : IVec S_ 1 :=
  let main_v51 : IVec S3x16x16 1 := cmpf .olt main_v49 main_v50
  let main_c_19 : IVec S_ 1 := constantI S_ 1 1#1
  let main_v52 : IVec S_ 1 := (fun x v => Host.reduce IntOp.andi x v reducesTo_S3x16x16_S_d0_1_2 h_S_) main_v51 main_c_19
  let main_v53 : IVec S_ 1 := andi main_v48 main_v52
  let main_v54 : FVec F S3x16x16 .f32 := Host.absf main_arg11
  let main_cst_20 : FVec F S_ .f32 := constant S_ .f32 0x7F800000#32
  let main_v55 : FVec F S3x16x16 .f32 := broadcastInDim S3x16x16 ![] bcast_S_S3x16x16 main_cst_20
  let main_v56 : IVec S3x16x16 1 := cmpf .olt main_v54 main_v55
  let main_c_21 : IVec S_ 1 := constantI S_ 1 1#1
  let main_v57 : IVec S_ 1 := (fun x v => Host.reduce IntOp.andi x v reducesTo_S3x16x16_S_d0_1_2 h_S_) main_v56 main_c_21
  let main_v58 : IVec S_ 1 := andi main_v53 main_v57
  main_v58

def fn_part2 {F : FTy → Type} [FloatOps F] (main_arg7 : FVec F S3x16x16 .f32) (main_arg8 : FVec F S1x256x8 .f32) (main_arg9 : FVec F S16x2 .f32) (main_arg10 : FVec F S3x16x16 .f32) (main_arg11 : FVec F S3x16x16 .f32) (main_v33 : IVec S_ 1) : IVec S_ 1 :=
  let main_v34 : FVec F S3x16x16 .f32 := Host.absf main_arg7
  let main_cst_12 : FVec F S_ .f32 := constant S_ .f32 0x7F800000#32
  let main_v35 : FVec F S3x16x16 .f32 := broadcastInDim S3x16x16 ![] bcast_S_S3x16x16 main_cst_12
  let main_v36 : IVec S3x16x16 1 := cmpf .olt main_v34 main_v35
  let main_c_13 : IVec S_ 1 := constantI S_ 1 1#1
  let main_v37 : IVec S_ 1 := (fun x v => Host.reduce IntOp.andi x v reducesTo_S3x16x16_S_d0_1_2 h_S_) main_v36 main_c_13
  let main_v38 : IVec S_ 1 := andi main_v33 main_v37
  let main_v39 : FVec F S1x256x8 .f32 := Host.absf main_arg8
  let main_cst_14 : FVec F S_ .f32 := constant S_ .f32 0x7F800000#32
  let main_v40 : FVec F S1x256x8 .f32 := broadcastInDim S1x256x8 ![] bcast_S_S1x256x8 main_cst_14
  let main_v41 : IVec S1x256x8 1 := cmpf .olt main_v39 main_v40
  let main_c_15 : IVec S_ 1 := constantI S_ 1 1#1
  let main_v42 : IVec S_ 1 := (fun x v => Host.reduce IntOp.andi x v reducesTo_S1x256x8_S_d0_1_2 h_S_) main_v41 main_c_15
  let main_v43 : IVec S_ 1 := andi main_v38 main_v42
  let main_v44 : FVec F S16x2 .f32 := Host.absf main_arg9
  let main_cst_16 : FVec F S_ .f32 := constant S_ .f32 0x7F800000#32
  let main_v45 : FVec F S16x2 .f32 := broadcastInDim S16x2 ![] bcast_S_S16x2 main_cst_16
  let main_v46 : IVec S16x2 1 := cmpf .olt main_v44 main_v45
  let main_c_17 : IVec S_ 1 := constantI S_ 1 1#1
  let main_v47 : IVec S_ 1 := (fun x v => Host.reduce IntOp.andi x v reducesTo_S16x2_S_d0_1 h_S_) main_v46 main_c_17
  let main_v48 : IVec S_ 1 := andi main_v43 main_v47
  let main_v49 : FVec F S3x16x16 .f32 := Host.absf main_arg10
  let main_cst_18 : FVec F S_ .f32 := constant S_ .f32 0x7F800000#32
  let main_v50 : FVec F S3x16x16 .f32 := broadcastInDim S3x16x16 ![] bcast_S_S3x16x16 main_cst_18
  fn_part3 (F := F) main_arg11 main_v48 main_v49 main_v50

def fn_part1 {F : FTy → Type} [FloatOps F] (main_arg4 : FVec F S4x256x8 .f32) (main_arg5 : FVec F S16x8 .f32) (main_arg6 : FVec F S3x16x16 .f32) (main_arg7 : FVec F S3x16x16 .f32) (main_arg8 : FVec F S1x256x8 .f32) (main_arg9 : FVec F S16x2 .f32) (main_arg10 : FVec F S3x16x16 .f32) (main_arg11 : FVec F S3x16x16 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S4x256x8 .f32 := Host.absf main_arg4
  let main_cst_6 : FVec F S_ .f32 := constant S_ .f32 0x7F800000#32
  let main_v20 : FVec F S4x256x8 .f32 := broadcastInDim S4x256x8 ![] bcast_S_S4x256x8 main_cst_6
  let main_v21 : IVec S4x256x8 1 := cmpf .olt main_v19 main_v20
  let main_c_7 : IVec S_ 1 := constantI S_ 1 1#1
  let main_v22 : IVec S_ 1 := (fun x v => Host.reduce IntOp.andi x v reducesTo_S4x256x8_S_d0_1_2 h_S_) main_v21 main_c_7
  let main_v23 : IVec S_ 1 := andi main_v18 main_v22
  let main_v24 : FVec F S16x8 .f32 := Host.absf main_arg5
  let main_cst_8 : FVec F S_ .f32 := constant S_ .f32 0x7F800000#32
  let main_v25 : FVec F S16x8 .f32 := broadcastInDim S16x8 ![] bcast_S_S16x8 main_cst_8
  let main_v26 : IVec S16x8 1 := cmpf .olt main_v24 main_v25
  let main_c_9 : IVec S_ 1 := constantI S_ 1 1#1
  let main_v27 : IVec S_ 1 := (fun x v => Host.reduce IntOp.andi x v reducesTo_S16x8_S_d0_1 h_S_) main_v26 main_c_9
  let main_v28 : IVec S_ 1 := andi main_v23 main_v27
  let main_v29 : FVec F S3x16x16 .f32 := Host.absf main_arg6
  let main_cst_10 : FVec F S_ .f32 := constant S_ .f32 0x7F800000#32
  let main_v30 : FVec F S3x16x16 .f32 := broadcastInDim S3x16x16 ![] bcast_S_S3x16x16 main_cst_10
  let main_v31 : IVec S3x16x16 1 := cmpf .olt main_v29 main_v30
  let main_c_11 : IVec S_ 1 := constantI S_ 1 1#1
  let main_v32 : IVec S_ 1 := (fun x v => Host.reduce IntOp.andi x v reducesTo_S3x16x16_S_d0_1_2 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S6144x1x16x16 .f32) (main_arg1 : FVec F S256x256 .f32) (main_arg2 : FVec F S256x32 .f32) (main_arg3 : FVec F S256 .f32) (main_arg4 : FVec F S4x256x8 .f32) (main_arg5 : FVec F S16x8 .f32) (main_arg6 : FVec F S3x16x16 .f32) (main_arg7 : FVec F S3x16x16 .f32) (main_arg8 : FVec F S1x256x8 .f32) (main_arg9 : FVec F S16x2 .f32) (main_arg10 : FVec F S3x16x16 .f32) (main_arg11 : FVec F S3x16x16 .f32) : IVec S_ 1 :=
  let main_v0 : FVec F S6144x1x16x16 .f32 := Host.absf main_arg0
  let main_cst : FVec F S_ .f32 := constant S_ .f32 0x7F800000#32
  let main_v1 : FVec F S6144x1x16x16 .f32 := broadcastInDim S6144x1x16x16 ![] bcast_S_S6144x1x16x16 main_cst
  let main_v2 : IVec S6144x1x16x16 1 := cmpf .olt main_v0 main_v1
  let main_c : IVec S_ 1 := constantI S_ 1 1#1
  let main_v3 : IVec S_ 1 := (fun x v => Host.reduce IntOp.andi x v reducesTo_S6144x1x16x16_S_d0_1_2_3 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256x32 .f32 := Host.absf main_arg2
  let main_cst_2 : FVec F S_ .f32 := constant S_ .f32 0x7F800000#32
  let main_v10 : FVec F S256x32 .f32 := broadcastInDim S256x32 ![] bcast_S_S256x32 main_cst_2
  let main_v11 : IVec S256x32 1 := cmpf .olt main_v9 main_v10
  let main_c_3 : IVec S_ 1 := constantI S_ 1 1#1
  let main_v12 : IVec S_ 1 := (fun x v => Host.reduce IntOp.andi x v reducesTo_S256x32_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_arg8 main_arg9 main_arg10 main_arg11 main_v13 main_v16
-- ==== Kernel.lean ====
abbrev S6144x1x16x16 : Shape := ⟨4, ![6144, 1, 16, 16]⟩
abbrev S256x256 : Shape := ⟨2, ![256, 256]⟩
abbrev S256x32 : Shape := ⟨2, ![256, 32]⟩
abbrev S256 : Shape := ⟨1, ![256]⟩
abbrev S4x256x8 : Shape := ⟨3, ![4, 256, 8]⟩
abbrev S16x8 : Shape := ⟨2, ![16, 8]⟩
abbrev S3x16x16 : Shape := ⟨3, ![3, 16, 16]⟩
abbrev S1x256x8 : Shape := ⟨3, ![1, 256, 8]⟩
abbrev S16x2 : Shape := ⟨2, ![16, 2]⟩
abbrev S6144x256 : Shape := ⟨2, ![6144, 256]⟩
abbrev S2048x256 : Shape := ⟨2, ![2048, 256]⟩
abbrev S_ : Shape := ⟨0, ![]⟩
abbrev S2048 : Shape := ⟨1, ![2048]⟩
abbrev S256x2048 : Shape := ⟨2, ![256, 2048]⟩
abbrev S2048x2048 : Shape := ⟨2, ![2048, 2048]⟩
abbrev S2048x1 : Shape := ⟨2, ![2048, 1]⟩
abbrev S1x2048 : Shape := ⟨2, ![1, 2048]⟩
abbrev S1x16x16 : Shape := ⟨3, ![1, 16, 16]⟩
abbrev S16x16 : Shape := ⟨2, ![16, 16]⟩
abbrev S16x1 : Shape := ⟨2, ![16, 1]⟩
abbrev S256x8 : Shape := ⟨2, ![256, 8]⟩
abbrev S2048x8 : Shape := ⟨2, ![2048, 8]⟩
abbrev S8x1 : Shape := ⟨2, ![8, 1]⟩
abbrev S2048x32 : Shape := ⟨2, ![2048, 32]⟩
abbrev S32x256 : Shape := ⟨2, ![32, 256]⟩
abbrev S1x256 : Shape := ⟨2, ![1, 256]⟩

abbrev nBuf : Space → Nat
  | .hbm => 1203
  | .vmem => 51
  | .smem => 0
  | _ => 0

abbrev hbmTy0_0 (i : Nat) : BufTy := match i % 128 with
  | 0 => ⟨S6144x1x16x16, .f32⟩
  | 1 => ⟨S256x256, .f32⟩
  | 2 => ⟨S256x32, .f32⟩
  | 3 => ⟨S256, .f32⟩
  | 4 => ⟨S4x256x8, .f32⟩
  | 5 => ⟨S16x8, .f32⟩
  | 6 => ⟨S3x16x16, .f32⟩
  | 7 => ⟨S3x16x16, .f32⟩
  | 8 => ⟨S1x256x8, .f32⟩
  | 9 => ⟨S16x2, .f32⟩
  | 10 => ⟨S3x16x16, .f32⟩
  | 11 => ⟨S3x16x16, .f32⟩
  | 12 => ⟨S6144x256, .f32⟩
  | 13 => ⟨S2048x256, .f32⟩
  | 14 => ⟨S2048x256, .f32⟩
  | 15 => ⟨S_, .f32⟩
  | 16 => ⟨S2048, .f32⟩
  | 17 => ⟨S256x2048, .f32⟩
  | 18 => ⟨S2048x2048, .f32⟩
  | 19 => ⟨S2048x1, .f32⟩
  | 20 => ⟨S1x2048, .f32⟩
  | 21 => ⟨S2048x2048, .f32⟩
  | 22 => ⟨S2048x2048, .f32⟩
  | 23 => ⟨S2048x2048, .f32⟩
  | 24 => ⟨S_, .f32⟩
  | 25 => ⟨S2048x2048, .f32⟩
  | 26 => ⟨S2048x2048, .f32⟩
  | 27 => ⟨S2048x2048, .f32⟩
  | 28 => ⟨S2048x2048, .f32⟩
  | 29 => ⟨S_, .f32⟩
  | 30 => ⟨S_, .f32⟩
  | 31 => ⟨S_, .f32⟩
  | 32 => ⟨S_, .f32⟩
  | 33 => ⟨S_, .f32⟩
  | 34 => ⟨S_, .f32⟩
  | 35 => ⟨S2048x2048, .f32⟩
  | 36 => ⟨S2048x2048, .i1⟩
  | 37 => ⟨S2048x2048, .f32⟩
  | 38 => ⟨S2048x2048, .f32⟩
  | 39 => ⟨S_, .f32⟩
  | 40 => ⟨S2048x2048, .f32⟩
  | 41 => ⟨S2048x2048, .i1⟩
  | 42 => ⟨S2048x2048, .f32⟩
  | 43 => ⟨S_, .f32⟩
  | 44 => ⟨S2048, .f32⟩
  | 45 => ⟨S_, .f32⟩
  | 46 => ⟨S2048, .f32⟩
  | 47 => ⟨S2048, .f32⟩
  | 48 => ⟨S_, .f32⟩
  | 49 => ⟨S2048, .f32⟩
  | 50 => ⟨S_, .f32⟩
  | 51 => ⟨S2048, .f32⟩
  | 52 => ⟨S2048, .f32⟩
  | 53 => ⟨S2048x1, .f32⟩
  | 54 => ⟨S2048x256, .f32⟩
  | 55 => ⟨S2048x256, .f32⟩
  | 56 => ⟨S2048x256, .f32⟩
  | 57 => ⟨S2048x1, .f32⟩
  | 58 => ⟨S2048x256, .f32⟩
  | 59 => ⟨S2048x256, .f32⟩
  | 60 => ⟨S2048x256, .f32⟩
  | 61 => ⟨S2048x1, .f32⟩
  | 62 => ⟨S2048x1, .f32⟩
  | 63 => ⟨S2048x256, .f32⟩
  | 64 => ⟨S2048x256, .f32⟩
  | 65 => ⟨S2048x256, .f32⟩
  | 66 => ⟨S2048x256, .f32⟩
  | 67 => ⟨S2048x256, .f32⟩
  | 68 => ⟨S1x16x16, .f32⟩
  | 69 => ⟨S16x16, .f32⟩
  | 70 => ⟨S16x8, .f32⟩
  | 71 => ⟨S1x16x16, .f32⟩
  | 72 => ⟨S16x16, .f32⟩
  | 73 => ⟨S16x8, .f32⟩
  | 74 => ⟨S16x8, .f32⟩
  | 75 => ⟨S16x8, .f32⟩
  | 76 => ⟨S16x8, .f32⟩
  | 77 => ⟨S_, .f32⟩
  | 78 => ⟨S16x8, .f32⟩
  | 79 => ⟨S16x8, .f32⟩
  | 80 => ⟨S_, .f32⟩
  | 81 => ⟨S16x8, .f32⟩
  | 82 => ⟨S16x8, .f32⟩
  | 83 => ⟨S1x16x16, .f32⟩
  | 84 => ⟨S16x16, .f32⟩
  | 85 => ⟨S16x8, .f32⟩
  | 86 => ⟨S1x16x16, .f32⟩
  | 87 => ⟨S16x16, .f32⟩
  | 88 => ⟨S16x8, .f32⟩
  | 89 => ⟨S16x8, .f32⟩
  | 90 => ⟨S16x8, .f32⟩
  | 91 => ⟨S16x8, .f32⟩
  | 92 => ⟨S_, .f32⟩
  | 93 => ⟨S16x8, .f32⟩
  | 94 => ⟨S16x8, .f32⟩
  | 95 => ⟨S_, .f32⟩
  | 96 => ⟨S16x8, .f32⟩
  | 97 => ⟨S16x8, .f32⟩
  | 98 => ⟨S1x16x16, .f32⟩
  | 99 => ⟨S16x16, .f32⟩
  | 100 => ⟨S16x8, .f32⟩
  | 101 => ⟨S1x16x16, .f32⟩
  | 102 => ⟨S16x16, .f32⟩
  | 103 => ⟨S16x8, .f32⟩
  | 104 => ⟨S16x8, .f32⟩
  | 105 => ⟨S16x8, .f32⟩
  | 106 => ⟨S16x8, .f32⟩
  | 107 => ⟨S_, .f32⟩
  | 108 => ⟨S16x8, .f32⟩
  | 109 => ⟨S16x8, .f32⟩
  | 110 => ⟨S16x8, .f32⟩
  | 111 => ⟨S16x8, .f32⟩
  | 112 => ⟨S16x8, .f32⟩
  | 113 => ⟨S1x16x16, .f32⟩
  | 114 => ⟨S16x16, .f32⟩
  | 115 => ⟨S16x8, .f32⟩
  | 116 => ⟨S1x16x16, .f32⟩
  | 117 => ⟨S16x16, .f32⟩
  | 118 => ⟨S16x8, .f32⟩
  | 119 => ⟨S16x8, .f32⟩
  | 120 => ⟨S16x8, .f32⟩
  | 121 => ⟨S16x8, .f32⟩
  | 122 => ⟨S_, .f32⟩
  | 123 => ⟨S16x8, .f32⟩
  | 124 => ⟨S16x8, .f32⟩
  | 125 => ⟨S_, .f32⟩
  | 126 => ⟨S16x8, .f32⟩
  | 127 => ⟨S16x8, .f32⟩
  | _ => ⟨S6144x1x16x16, .f32⟩

abbrev hbmTy0_1 (i : Nat) : BufTy := match i % 128 with
  | 0 => ⟨S1x16x16, .f32⟩
  | 1 => ⟨S16x16, .f32⟩
  | 2 => ⟨S16x8, .f32⟩
  | 3 => ⟨S1x16x16, .f32⟩
  | 4 => ⟨S16x16, .f32⟩
  | 5 => ⟨S16x8, .f32⟩
  | 6 => ⟨S16x8, .f32⟩
  | 7 => ⟨S16x8, .f32⟩
  | 8 => ⟨S16x8, .f32⟩
  | 9 => ⟨S_, .f32⟩
  | 10 => ⟨S16x8, .f32⟩
  | 11 => ⟨S16x8, .f32⟩
  | 12 => ⟨S_, .f32⟩
  | 13 => ⟨S16x8, .f32⟩
  | 14 => ⟨S16x8, .f32⟩
  | 15 => ⟨S1x16x16, .f32⟩
  | 16 => ⟨S16x16, .f32⟩
  | 17 => ⟨S16x8, .f32⟩
  | 18 => ⟨S1x16x16, .f32⟩
  | 19 => ⟨S16x16, .f32⟩
  | 20 => ⟨S16x8, .f32⟩
  | 21 => ⟨S16x8, .f32⟩
  | 22 => ⟨S16x8, .f32⟩
  | 23 => ⟨S16x8, .f32⟩
  | 24 => ⟨S_, .f32⟩
  | 25 => ⟨S16x8, .f32⟩
  | 26 => ⟨S16x8, .f32⟩
  | 27 => ⟨S16x8, .f32⟩
  | 28 => ⟨S16x8, .f32⟩
  | 29 => ⟨S16x8, .f32⟩
  | 30 => ⟨S1x16x16, .f32⟩
  | 31 => ⟨S16x16, .f32⟩
  | 32 => ⟨S16x8, .f32⟩
  | 33 => ⟨S1x16x16, .f32⟩
  | 34 => ⟨S16x16, .f32⟩
  | 35 => ⟨S16x8, .f32⟩
  | 36 => ⟨S16x8, .f32⟩
  | 37 => ⟨S16x8, .f32⟩
  | 38 => ⟨S16x8, .f32⟩
  | 39 => ⟨S_, .f32⟩
  | 40 => ⟨S16x8, .f32⟩
  | 41 => ⟨S16x8, .f32⟩
  | 42 => ⟨S_, .f32⟩
  | 43 => ⟨S16x8, .f32⟩
  | 44 => ⟨S16x8, .f32⟩
  | 45 => ⟨S1x16x16, .f32⟩
  | 46 => ⟨S16x16, .f32⟩
  | 47 => ⟨S16x8, .f32⟩
  | 48 => ⟨S1x16x16, .f32⟩
  | 49 => ⟨S16x16, .f32⟩
  | 50 => ⟨S16x8, .f32⟩
  | 51 => ⟨S16x8, .f32⟩
  | 52 => ⟨S16x8, .f32⟩
  | 53 => ⟨S16x8, .f32⟩
  | 54 => ⟨S_, .f32⟩
  | 55 => ⟨S16x8, .f32⟩
  | 56 => ⟨S16x8, .f32⟩
  | 57 => ⟨S_, .f32⟩
  | 58 => ⟨S16x8, .f32⟩
  | 59 => ⟨S16x8, .f32⟩
  | 60 => ⟨S1x16x16, .f32⟩
  | 61 => ⟨S16x16, .f32⟩
  | 62 => ⟨S16x8, .f32⟩
  | 63 => ⟨S1x16x16, .f32⟩
  | 64 => ⟨S16x16, .f32⟩
  | 65 => ⟨S16x8, .f32⟩
  | 66 => ⟨S16x8, .f32⟩
  | 67 => ⟨S16x8, .f32⟩
  | 68 => ⟨S16x8, .f32⟩
  | 69 => ⟨S_, .f32⟩
  | 70 => ⟨S16x8, .f32⟩
  | 71 => ⟨S16x8, .f32⟩
  | 72 => ⟨S16x8, .f32⟩
  | 73 => ⟨S16x8, .f32⟩
  | 74 => ⟨S16x8, .f32⟩
  | 75 => ⟨S2048x256, .f32⟩
  | 76 => ⟨S_, .f32⟩
  | 77 => ⟨S2048, .f32⟩
  | 78 => ⟨S2048, .f32⟩
  | 79 => ⟨S256x2048, .f32⟩
  | 80 => ⟨S2048x2048, .f32⟩
  | 81 => ⟨S2048x1, .f32⟩
  | 82 => ⟨S1x2048, .f32⟩
  | 83 => ⟨S2048x2048, .f32⟩
  | 84 => ⟨S2048x2048, .f32⟩
  | 85 => ⟨S2048x2048, .f32⟩
  | 86 => ⟨S2048x2048, .f32⟩
  | 87 => ⟨S2048x2048, .i32⟩
  | 88 => ⟨S2048x2048, .i32⟩
  | 89 => ⟨S_, .i32⟩
  | 90 => ⟨S2048x2048, .i32⟩
  | 91 => ⟨S2048x2048, .i32⟩
  | 92 => ⟨S2048x2048, .i1⟩
  | 93 => ⟨S2048x2048, .f32⟩
  | 94 => ⟨S_, .f32⟩
  | 95 => ⟨S2048x2048, .f32⟩
  | 96 => ⟨S2048x2048, .f32⟩
  | 97 => ⟨S_, .f32⟩
  | 98 => ⟨S2048x2048, .f32⟩
  | 99 => ⟨S2048x2048, .i1⟩
  | 100 => ⟨S_, .f32⟩
  | 101 => ⟨S_, .f32⟩
  | 102 => ⟨S2048x2048, .f32⟩
  | 103 => ⟨S2048x2048, .f32⟩
  | 104 => ⟨S2048x2048, .f32⟩
  | 105 => ⟨S2048x2048, .f32⟩
  | 106 => ⟨S_, .f32⟩
  | 107 => ⟨S2048x2048, .f32⟩
  | 108 => ⟨S2048x2048, .i1⟩
  | 109 => ⟨S2048x2048, .f32⟩
  | 110 => ⟨S2048x2048, .f32⟩
  | 111 => ⟨S2048x2048, .f32⟩
  | 112 => ⟨S_, .f32⟩
  | 113 => ⟨S2048, .f32⟩
  | 114 => ⟨S2048x1, .f32⟩
  | 115 => ⟨S2048x2048, .f32⟩
  | 116 => ⟨S2048x2048, .f32⟩
  | 117 => ⟨S_, .f32⟩
  | 118 => ⟨S2048, .f32⟩
  | 119 => ⟨S2048x1, .f32⟩
  | 120 => ⟨S16x1, .f32⟩
  | 121 => ⟨S16x1, .f32⟩
  | 122 => ⟨S1x256x8, .f32⟩
  | 123 => ⟨S256x8, .f32⟩
  | 124 => ⟨S2048x8, .f32⟩
  | 125 => ⟨S2048x8, .f32⟩
  | 126 => ⟨S2048x8, .f32⟩
  | 127 => ⟨S8x1, .f32⟩
  | _ => ⟨S6144x1x16x16, .f32⟩

abbrev hbmTy0_2 (i : Nat) : BufTy := match i % 128 with
  | 0 => ⟨S2048x1, .f32⟩
  | 1 => ⟨S8x1, .f32⟩
  | 2 => ⟨S2048x1, .f32⟩
  | 3 => ⟨S1x2048, .f32⟩
  | 4 => ⟨S2048x2048, .f32⟩
  | 5 => ⟨S2048x2048, .f32⟩
  | 6 => ⟨S2048x2048, .f32⟩
  | 7 => ⟨S_, .f32⟩
  | 8 => ⟨S_, .f32⟩
  | 9 => ⟨S2048x2048, .f32⟩
  | 10 => ⟨S2048x2048, .i1⟩
  | 11 => ⟨S_, .f32⟩
  | 12 => ⟨S2048x2048, .f32⟩
  | 13 => ⟨S2048x2048, .f32⟩
  | 14 => ⟨S2048x2048, .f32⟩
  | 15 => ⟨S_, .f32⟩
  | 16 => ⟨S_, .f32⟩
  | 17 => ⟨S2048x1, .f32⟩
  | 18 => ⟨S2048x1, .f32⟩
  | 19 => ⟨S_, .f32⟩
  | 20 => ⟨S_, .f32⟩
  | 21 => ⟨S_, .f32⟩
  | 22 => ⟨S_, .f32⟩
  | 23 => ⟨S_, .f32⟩
  | 24 => ⟨S2048x1, .f32⟩
  | 25 => ⟨S2048x1, .f32⟩
  | 26 => ⟨S_, .f32⟩
  | 27 => ⟨S_, .f32⟩
  | 28 => ⟨S2048x1, .f32⟩
  | 29 => ⟨S2048x1, .f32⟩
  | 30 => ⟨S_, .f32⟩
  | 31 => ⟨S2048x2048, .f32⟩
  | 32 => ⟨S2048x2048, .i1⟩
  | 33 => ⟨S2048x2048, .f32⟩
  | 34 => ⟨S2048x2048, .f32⟩
  | 35 => ⟨S_, .f32⟩
  | 36 => ⟨S_, .f32⟩
  | 37 => ⟨S2048x2048, .f32⟩
  | 38 => ⟨S2048x2048, .f32⟩
  | 39 => ⟨S_, .f32⟩
  | 40 => ⟨S2048, .f32⟩
  | 41 => ⟨S_, .f32⟩
  | 42 => ⟨S2048, .f32⟩
  | 43 => ⟨S2048, .f32⟩
  | 44 => ⟨S2048x1, .f32⟩
  | 45 => ⟨S2048x2048, .f32⟩
  | 46 => ⟨S2048x2048, .f32⟩
  | 47 => ⟨S2048x2048, .f32⟩
  | 48 => ⟨S_, .f32⟩
  | 49 => ⟨S2048, .f32⟩
  | 50 => ⟨S2048x1, .f32⟩
  | 51 => ⟨S2048x2048, .f32⟩
  | 52 => ⟨S2048x2048, .f32⟩
  | 53 => ⟨S2048x2048, .f32⟩
  | 54 => ⟨S2048x8, .f32⟩
  | 55 => ⟨S_, .f32⟩
  | 56 => ⟨S2048x8, .f32⟩
  | 57 => ⟨S2048x8, .i1⟩
  | 58 => ⟨S_, .f32⟩
  | 59 => ⟨S2048x8, .f32⟩
  | 60 => ⟨S2048x8, .i1⟩
  | 61 => ⟨S_, .f32⟩
  | 62 => ⟨S_, .f32⟩
  | 63 => ⟨S2048x8, .f32⟩
  | 64 => ⟨S2048x8, .f32⟩
  | 65 => ⟨S2048x8, .f32⟩
  | 66 => ⟨S_, .f32⟩
  | 67 => ⟨S2048x8, .f32⟩
  | 68 => ⟨S2048x8, .f32⟩
  | 69 => ⟨S2048x8, .f32⟩
  | 70 => ⟨S2048x8, .f32⟩
  | 71 => ⟨S2048x8, .f32⟩
  | 72 => ⟨S8x1, .f32⟩
  | 73 => ⟨S2048x1, .f32⟩
  | 74 => ⟨S8x1, .f32⟩
  | 75 => ⟨S2048x1, .f32⟩
  | 76 => ⟨S1x2048, .f32⟩
  | 77 => ⟨S2048x2048, .f32⟩
  | 78 => ⟨S2048x2048, .f32⟩
  | 79 => ⟨S2048x2048, .f32⟩
  | 80 => ⟨S_, .f32⟩
  | 81 => ⟨S_, .f32⟩
  | 82 => ⟨S2048x2048, .f32⟩
  | 83 => ⟨S2048x2048, .i1⟩
  | 84 => ⟨S_, .f32⟩
  | 85 => ⟨S2048x2048, .f32⟩
  | 86 => ⟨S2048x2048, .f32⟩
  | 87 => ⟨S2048x2048, .f32⟩
  | 88 => ⟨S_, .f32⟩
  | 89 => ⟨S_, .f32⟩
  | 90 => ⟨S2048x1, .f32⟩
  | 91 => ⟨S2048x1, .f32⟩
  | 92 => ⟨S_, .f32⟩
  | 93 => ⟨S_, .f32⟩
  | 94 => ⟨S_, .f32⟩
  | 95 => ⟨S_, .f32⟩
  | 96 => ⟨S_, .f32⟩
  | 97 => ⟨S2048x1, .f32⟩
  | 98 => ⟨S2048x1, .f32⟩
  | 99 => ⟨S_, .f32⟩
  | 100 => ⟨S_, .f32⟩
  | 101 => ⟨S2048x1, .f32⟩
  | 102 => ⟨S2048x1, .f32⟩
  | 103 => ⟨S_, .f32⟩
  | 104 => ⟨S2048x2048, .f32⟩
  | 105 => ⟨S2048x2048, .i1⟩
  | 106 => ⟨S2048x2048, .f32⟩
  | 107 => ⟨S2048x2048, .f32⟩
  | 108 => ⟨S_, .f32⟩
  | 109 => ⟨S_, .f32⟩
  | 110 => ⟨S2048x2048, .f32⟩
  | 111 => ⟨S2048x2048, .f32⟩
  | 112 => ⟨S_, .f32⟩
  | 113 => ⟨S2048, .f32⟩
  | 114 => ⟨S_, .f32⟩
  | 115 => ⟨S2048, .f32⟩
  | 116 => ⟨S2048, .f32⟩
  | 117 => ⟨S2048x1, .f32⟩
  | 118 => ⟨S2048x2048, .f32⟩
  | 119 => ⟨S2048x2048, .f32⟩
  | 120 => ⟨S2048x2048, .f32⟩
  | 121 => ⟨S_, .f32⟩
  | 122 => ⟨S2048, .f32⟩
  | 123 => ⟨S2048x1, .f32⟩
  | 124 => ⟨S2048x2048, .f32⟩
  | 125 => ⟨S2048x2048, .f32⟩
  | 126 => ⟨S2048x2048, .f32⟩
  | 127 => ⟨S2048x8, .f32⟩
  | _ => ⟨S6144x1x16x16, .f32⟩

abbrev hbmTy0_3 (i : Nat) : BufTy := match i % 128 with
  | 0 => ⟨S_, .f32⟩
  | 1 => ⟨S2048x8, .f32⟩
  | 2 => ⟨S2048x8, .i1⟩
  | 3 => ⟨S_, .f32⟩
  | 4 => ⟨S2048x8, .f32⟩
  | 5 => ⟨S2048x8, .i1⟩
  | 6 => ⟨S_, .f32⟩
  | 7 => ⟨S_, .f32⟩
  | 8 => ⟨S2048x8, .f32⟩
  | 9 => ⟨S2048x8, .f32⟩
  | 10 => ⟨S2048x8, .f32⟩
  | 11 => ⟨S_, .f32⟩
  | 12 => ⟨S2048x8, .f32⟩
  | 13 => ⟨S2048x8, .f32⟩
  | 14 => ⟨S2048x8, .f32⟩
  | 15 => ⟨S16x1, .f32⟩
  | 16 => ⟨S16x1, .f32⟩
  | 17 => ⟨S1x256x8, .f32⟩
  | 18 => ⟨S256x8, .f32⟩
  | 19 => ⟨S2048x8, .f32⟩
  | 20 => ⟨S2048x8, .f32⟩
  | 21 => ⟨S2048x8, .f32⟩
  | 22 => ⟨S8x1, .f32⟩
  | 23 => ⟨S2048x1, .f32⟩
  | 24 => ⟨S8x1, .f32⟩
  | 25 => ⟨S2048x1, .f32⟩
  | 26 => ⟨S1x2048, .f32⟩
  | 27 => ⟨S2048x2048, .f32⟩
  | 28 => ⟨S2048x2048, .f32⟩
  | 29 => ⟨S2048x2048, .f32⟩
  | 30 => ⟨S_, .f32⟩
  | 31 => ⟨S_, .f32⟩
  | 32 => ⟨S2048x2048, .f32⟩
  | 33 => ⟨S2048x2048, .i1⟩
  | 34 => ⟨S_, .f32⟩
  | 35 => ⟨S2048x2048, .f32⟩
  | 36 => ⟨S2048x2048, .f32⟩
  | 37 => ⟨S2048x2048, .f32⟩
  | 38 => ⟨S_, .f32⟩
  | 39 => ⟨S_, .f32⟩
  | 40 => ⟨S2048x1, .f32⟩
  | 41 => ⟨S2048x1, .f32⟩
  | 42 => ⟨S_, .f32⟩
  | 43 => ⟨S_, .f32⟩
  | 44 => ⟨S_, .f32⟩
  | 45 => ⟨S_, .f32⟩
  | 46 => ⟨S_, .f32⟩
  | 47 => ⟨S2048x1, .f32⟩
  | 48 => ⟨S2048x1, .f32⟩
  | 49 => ⟨S_, .f32⟩
  | 50 => ⟨S_, .f32⟩
  | 51 => ⟨S2048x1, .f32⟩
  | 52 => ⟨S2048x1, .f32⟩
  | 53 => ⟨S_, .f32⟩
  | 54 => ⟨S2048x2048, .f32⟩
  | 55 => ⟨S2048x2048, .i1⟩
  | 56 => ⟨S2048x2048, .f32⟩
  | 57 => ⟨S2048x2048, .f32⟩
  | 58 => ⟨S_, .f32⟩
  | 59 => ⟨S_, .f32⟩
  | 60 => ⟨S2048x2048, .f32⟩
  | 61 => ⟨S2048x2048, .f32⟩
  | 62 => ⟨S_, .f32⟩
  | 63 => ⟨S2048, .f32⟩
  | 64 => ⟨S_, .f32⟩
  | 65 => ⟨S2048, .f32⟩
  | 66 => ⟨S2048, .f32⟩
  | 67 => ⟨S2048x1, .f32⟩
  | 68 => ⟨S2048x2048, .f32⟩
  | 69 => ⟨S2048x2048, .f32⟩
  | 70 => ⟨S2048x2048, .f32⟩
  | 71 => ⟨S_, .f32⟩
  | 72 => ⟨S2048, .f32⟩
  | 73 => ⟨S2048x1, .f32⟩
  | 74 => ⟨S2048x2048, .f32⟩
  | 75 => ⟨S2048x2048, .f32⟩
  | 76 => ⟨S2048x2048, .f32⟩
  | 77 => ⟨S2048x8, .f32⟩
  | 78 => ⟨S_, .f32⟩
  | 79 => ⟨S2048x8, .f32⟩
  | 80 => ⟨S2048x8, .i1⟩
  | 81 => ⟨S_, .f32⟩
  | 82 => ⟨S2048x8, .f32⟩
  | 83 => ⟨S2048x8, .i1⟩
  | 84 => ⟨S_, .f32⟩
  | 85 => ⟨S_, .f32⟩
  | 86 => ⟨S2048x8, .f32⟩
  | 87 => ⟨S2048x8, .f32⟩
  | 88 => ⟨S2048x8, .f32⟩
  | 89 => ⟨S_, .f32⟩
  | 90 => ⟨S2048x8, .f32⟩
  | 91 => ⟨S2048x8, .f32⟩
  | 92 => ⟨S2048x8, .f32⟩
  | 93 => ⟨S2048x8, .f32⟩
  | 94 => ⟨S2048x8, .f32⟩
  | 95 => ⟨S8x1, .f32⟩
  | 96 => ⟨S2048x1, .f32⟩
  | 97 => ⟨S8x1, .f32⟩
  | 98 => ⟨S2048x1, .f32⟩
  | 99 => ⟨S1x2048, .f32⟩
  | 100 => ⟨S2048x2048, .f32⟩
  | 101 => ⟨S2048x2048, .f32⟩
  | 102 => ⟨S2048x2048, .f32⟩
  | 103 => ⟨S_, .f32⟩
  | 104 => ⟨S_, .f32⟩
  | 105 => ⟨S2048x2048, .f32⟩
  | 106 => ⟨S2048x2048, .i1⟩
  | 107 => ⟨S_, .f32⟩
  | 108 => ⟨S2048x2048, .f32⟩
  | 109 => ⟨S2048x2048, .f32⟩
  | 110 => ⟨S2048x2048, .f32⟩
  | 111 => ⟨S_, .f32⟩
  | 112 => ⟨S_, .f32⟩
  | 113 => ⟨S2048x1, .f32⟩
  | 114 => ⟨S2048x1, .f32⟩
  | 115 => ⟨S_, .f32⟩
  | 116 => ⟨S_, .f32⟩
  | 117 => ⟨S_, .f32⟩
  | 118 => ⟨S_, .f32⟩
  | 119 => ⟨S_, .f32⟩
  | 120 => ⟨S2048x1, .f32⟩
  | 121 => ⟨S2048x1, .f32⟩
  | 122 => ⟨S_, .f32⟩
  | 123 => ⟨S_, .f32⟩
  | 124 => ⟨S2048x1, .f32⟩
  | 125 => ⟨S2048x1, .f32⟩
  | 126 => ⟨S_, .f32⟩
  | 127 => ⟨S2048x2048, .f32⟩
  | _ => ⟨S6144x1x16x16, .f32⟩

abbrev hbmTy0_4 (i : Nat) : BufTy := match i % 128 with
  | 0 => ⟨S2048x2048, .i1⟩
  | 1 => ⟨S2048x2048, .f32⟩
  | 2 => ⟨S2048x2048, .f32⟩
  | 3 => ⟨S_, .f32⟩
  | 4 => ⟨S_, .f32⟩
  | 5 => ⟨S2048x2048, .f32⟩
  | 6 => ⟨S2048x2048, .f32⟩
  | 7 => ⟨S_, .f32⟩
  | 8 => ⟨S2048, .f32⟩
  | 9 => ⟨S_, .f32⟩
  | 10 => ⟨S2048, .f32⟩
  | 11 => ⟨S2048, .f32⟩
  | 12 => ⟨S2048x1, .f32⟩
  | 13 => ⟨S2048x2048, .f32⟩
  | 14 => ⟨S2048x2048, .f32⟩
  | 15 => ⟨S2048x2048, .f32⟩
  | 16 => ⟨S_, .f32⟩
  | 17 => ⟨S2048, .f32⟩
  | 18 => ⟨S2048x1, .f32⟩
  | 19 => ⟨S2048x2048, .f32⟩
  | 20 => ⟨S2048x2048, .f32⟩
  | 21 => ⟨S2048x2048, .f32⟩
  | 22 => ⟨S2048x8, .f32⟩
  | 23 => ⟨S_, .f32⟩
  | 24 => ⟨S2048x8, .f32⟩
  | 25 => ⟨S2048x8, .i1⟩
  | 26 => ⟨S_, .f32⟩
  | 27 => ⟨S2048x8, .f32⟩
  | 28 => ⟨S2048x8, .i1⟩
  | 29 => ⟨S_, .f32⟩
  | 30 => ⟨S_, .f32⟩
  | 31 => ⟨S2048x8, .f32⟩
  | 32 => ⟨S2048x8, .f32⟩
  | 33 => ⟨S2048x8, .f32⟩
  | 34 => ⟨S_, .f32⟩
  | 35 => ⟨S2048x8, .f32⟩
  | 36 => ⟨S2048x8, .f32⟩
  | 37 => ⟨S2048x8, .f32⟩
  | 38 => ⟨S16x1, .f32⟩
  | 39 => ⟨S16x1, .f32⟩
  | 40 => ⟨S1x256x8, .f32⟩
  | 41 => ⟨S256x8, .f32⟩
  | 42 => ⟨S2048x8, .f32⟩
  | 43 => ⟨S2048x8, .f32⟩
  | 44 => ⟨S2048x8, .f32⟩
  | 45 => ⟨S8x1, .f32⟩
  | 46 => ⟨S2048x1, .f32⟩
  | 47 => ⟨S8x1, .f32⟩
  | 48 => ⟨S2048x1, .f32⟩
  | 49 => ⟨S1x2048, .f32⟩
  | 50 => ⟨S2048x2048, .f32⟩
  | 51 => ⟨S2048x2048, .f32⟩
  | 52 => ⟨S2048x2048, .f32⟩
  | 53 => ⟨S_, .f32⟩
  | 54 => ⟨S_, .f32⟩
  | 55 => ⟨S2048x2048, .f32⟩
  | 56 => ⟨S2048x2048, .i1⟩
  | 57 => ⟨S_, .f32⟩
  | 58 => ⟨S2048x2048, .f32⟩
  | 59 => ⟨S2048x2048, .f32⟩
  | 60 => ⟨S2048x2048, .f32⟩
  | 61 => ⟨S_, .f32⟩
  | 62 => ⟨S_, .f32⟩
  | 63 => ⟨S2048x1, .f32⟩
  | 64 => ⟨S2048x1, .f32⟩
  | 65 => ⟨S_, .f32⟩
  | 66 => ⟨S_, .f32⟩
  | 67 => ⟨S_, .f32⟩
  | 68 => ⟨S_, .f32⟩
  | 69 => ⟨S_, .f32⟩
  | 70 => ⟨S2048x1, .f32⟩
  | 71 => ⟨S2048x1, .f32⟩
  | 72 => ⟨S_, .f32⟩
  | 73 => ⟨S_, .f32⟩
  | 74 => ⟨S2048x1, .f32⟩
  | 75 => ⟨S2048x1, .f32⟩
  | 76 => ⟨S_, .f32⟩
  | 77 => ⟨S2048x2048, .f32⟩
  | 78 => ⟨S2048x2048, .i1⟩
  | 79 => ⟨S2048x2048, .f32⟩
  | 80 => ⟨S2048x2048, .f32⟩
  | 81 => ⟨S_, .f32⟩
  | 82 => ⟨S_, .f32⟩
  | 83 => ⟨S2048x2048, .f32⟩
  | 84 => ⟨S2048x2048, .f32⟩
  | 85 => ⟨S_, .f32⟩
  | 86 => ⟨S2048, .f32⟩
  | 87 => ⟨S_, .f32⟩
  | 88 => ⟨S2048, .f32⟩
  | 89 => ⟨S2048, .f32⟩
  | 90 => ⟨S2048x1, .f32⟩
  | 91 => ⟨S2048x2048, .f32⟩
  | 92 => ⟨S2048x2048, .f32⟩
  | 93 => ⟨S2048x2048, .f32⟩
  | 94 => ⟨S_, .f32⟩
  | 95 => ⟨S2048, .f32⟩
  | 96 => ⟨S2048x1, .f32⟩
  | 97 => ⟨S2048x2048, .f32⟩
  | 98 => ⟨S2048x2048, .f32⟩
  | 99 => ⟨S2048x2048, .f32⟩
  | 100 => ⟨S2048x8, .f32⟩
  | 101 => ⟨S_, .f32⟩
  | 102 => ⟨S2048x8, .f32⟩
  | 103 => ⟨S2048x8, .i1⟩
  | 104 => ⟨S_, .f32⟩
  | 105 => ⟨S2048x8, .f32⟩
  | 106 => ⟨S2048x8, .i1⟩
  | 107 => ⟨S_, .f32⟩
  | 108 => ⟨S_, .f32⟩
  | 109 => ⟨S2048x8, .f32⟩
  | 110 => ⟨S2048x8, .f32⟩
  | 111 => ⟨S2048x8, .f32⟩
  | 112 => ⟨S_, .f32⟩
  | 113 => ⟨S2048x8, .f32⟩
  | 114 => ⟨S2048x8, .f32⟩
  | 115 => ⟨S2048x8, .f32⟩
  | 116 => ⟨S2048x8, .f32⟩
  | 117 => ⟨S2048x8, .f32⟩
  | 118 => ⟨S8x1, .f32⟩
  | 119 => ⟨S2048x1, .f32⟩
  | 120 => ⟨S8x1, .f32⟩
  | 121 => ⟨S2048x1, .f32⟩
  | 122 => ⟨S1x2048, .f32⟩
  | 123 => ⟨S2048x2048, .f32⟩
  | 124 => ⟨S2048x2048, .f32⟩
  | 125 => ⟨S2048x2048, .f32⟩
  | 126 => ⟨S_, .f32⟩
  | 127 => ⟨S_, .f32⟩
  | _ => ⟨S6144x1x16x16, .f32⟩

abbrev hbmTy0_5 (i : Nat) : BufTy := match i % 128 with
  | 0 => ⟨S2048x2048, .f32⟩
  | 1 => ⟨S2048x2048, .i1⟩
  | 2 => ⟨S_, .f32⟩
  | 3 => ⟨S2048x2048, .f32⟩
  | 4 => ⟨S2048x2048, .f32⟩
  | 5 => ⟨S2048x2048, .f32⟩
  | 6 => ⟨S_, .f32⟩
  | 7 => ⟨S_, .f32⟩
  | 8 => ⟨S2048x1, .f32⟩
  | 9 => ⟨S2048x1, .f32⟩
  | 10 => ⟨S_, .f32⟩
  | 11 => ⟨S_, .f32⟩
  | 12 => ⟨S_, .f32⟩
  | 13 => ⟨S_, .f32⟩
  | 14 => ⟨S_, .f32⟩
  | 15 => ⟨S2048x1, .f32⟩
  | 16 => ⟨S2048x1, .f32⟩
  | 17 => ⟨S_, .f32⟩
  | 18 => ⟨S_, .f32⟩
  | 19 => ⟨S2048x1, .f32⟩
  | 20 => ⟨S2048x1, .f32⟩
  | 21 => ⟨S_, .f32⟩
  | 22 => ⟨S2048x2048, .f32⟩
  | 23 => ⟨S2048x2048, .i1⟩
  | 24 => ⟨S2048x2048, .f32⟩
  | 25 => ⟨S2048x2048, .f32⟩
  | 26 => ⟨S_, .f32⟩
  | 27 => ⟨S_, .f32⟩
  | 28 => ⟨S2048x2048, .f32⟩
  | 29 => ⟨S2048x2048, .f32⟩
  | 30 => ⟨S_, .f32⟩
  | 31 => ⟨S2048, .f32⟩
  | 32 => ⟨S_, .f32⟩
  | 33 => ⟨S2048, .f32⟩
  | 34 => ⟨S2048, .f32⟩
  | 35 => ⟨S2048x1, .f32⟩
  | 36 => ⟨S2048x2048, .f32⟩
  | 37 => ⟨S2048x2048, .f32⟩
  | 38 => ⟨S2048x2048, .f32⟩
  | 39 => ⟨S_, .f32⟩
  | 40 => ⟨S2048, .f32⟩
  | 41 => ⟨S2048x1, .f32⟩
  | 42 => ⟨S2048x2048, .f32⟩
  | 43 => ⟨S2048x2048, .f32⟩
  | 44 => ⟨S2048x2048, .f32⟩
  | 45 => ⟨S2048x8, .f32⟩
  | 46 => ⟨S_, .f32⟩
  | 47 => ⟨S2048x8, .f32⟩
  | 48 => ⟨S2048x8, .i1⟩
  | 49 => ⟨S_, .f32⟩
  | 50 => ⟨S2048x8, .f32⟩
  | 51 => ⟨S2048x8, .i1⟩
  | 52 => ⟨S_, .f32⟩
  | 53 => ⟨S_, .f32⟩
  | 54 => ⟨S2048x8, .f32⟩
  | 55 => ⟨S2048x8, .f32⟩
  | 56 => ⟨S2048x8, .f32⟩
  | 57 => ⟨S_, .f32⟩
  | 58 => ⟨S2048x8, .f32⟩
  | 59 => ⟨S2048x8, .f32⟩
  | 60 => ⟨S2048x8, .f32⟩
  | 61 => ⟨S16x1, .f32⟩
  | 62 => ⟨S16x1, .f32⟩
  | 63 => ⟨S1x256x8, .f32⟩
  | 64 => ⟨S256x8, .f32⟩
  | 65 => ⟨S2048x8, .f32⟩
  | 66 => ⟨S2048x8, .f32⟩
  | 67 => ⟨S2048x8, .f32⟩
  | 68 => ⟨S8x1, .f32⟩
  | 69 => ⟨S2048x1, .f32⟩
  | 70 => ⟨S8x1, .f32⟩
  | 71 => ⟨S2048x1, .f32⟩
  | 72 => ⟨S1x2048, .f32⟩
  | 73 => ⟨S2048x2048, .f32⟩
  | 74 => ⟨S2048x2048, .f32⟩
  | 75 => ⟨S2048x2048, .f32⟩
  | 76 => ⟨S_, .f32⟩
  | 77 => ⟨S_, .f32⟩
  | 78 => ⟨S2048x2048, .f32⟩
  | 79 => ⟨S2048x2048, .i1⟩
  | 80 => ⟨S_, .f32⟩
  | 81 => ⟨S2048x2048, .f32⟩
  | 82 => ⟨S2048x2048, .f32⟩
  | 83 => ⟨S2048x2048, .f32⟩
  | 84 => ⟨S_, .f32⟩
  | 85 => ⟨S_, .f32⟩
  | 86 => ⟨S2048x1, .f32⟩
  | 87 => ⟨S2048x1, .f32⟩
  | 88 => ⟨S_, .f32⟩
  | 89 => ⟨S_, .f32⟩
  | 90 => ⟨S_, .f32⟩
  | 91 => ⟨S_, .f32⟩
  | 92 => ⟨S_, .f32⟩
  | 93 => ⟨S2048x1, .f32⟩
  | 94 => ⟨S2048x1, .f32⟩
  | 95 => ⟨S_, .f32⟩
  | 96 => ⟨S_, .f32⟩
  | 97 => ⟨S2048x1, .f32⟩
  | 98 => ⟨S2048x1, .f32⟩
  | 99 => ⟨S_, .f32⟩
  | 100 => ⟨S2048x2048, .f32⟩
  | 101 => ⟨S2048x2048, .i1⟩
  | 102 => ⟨S2048x2048, .f32⟩
  | 103 => ⟨S2048x2048, .f32⟩
  | 104 => ⟨S_, .f32⟩
  | 105 => ⟨S_, .f32⟩
  | 106 => ⟨S2048x2048, .f32⟩
  | 107 => ⟨S2048x2048, .f32⟩
  | 108 => ⟨S_, .f32⟩
  | 109 => ⟨S2048, .f32⟩
  | 110 => ⟨S_, .f32⟩
  | 111 => ⟨S2048, .f32⟩
  | 112 => ⟨S2048, .f32⟩
  | 113 => ⟨S2048x1, .f32⟩
  | 114 => ⟨S2048x2048, .f32⟩
  | 115 => ⟨S2048x2048, .f32⟩
  | 116 => ⟨S2048x2048, .f32⟩
  | 117 => ⟨S_, .f32⟩
  | 118 => ⟨S2048, .f32⟩
  | 119 => ⟨S2048x1, .f32⟩
  | 120 => ⟨S2048x2048, .f32⟩
  | 121 => ⟨S2048x2048, .f32⟩
  | 122 => ⟨S2048x2048, .f32⟩
  | 123 => ⟨S2048x8, .f32⟩
  | 124 => ⟨S_, .f32⟩
  | 125 => ⟨S2048x8, .f32⟩
  | 126 => ⟨S2048x8, .i1⟩
  | 127 => ⟨S_, .f32⟩
  | _ => ⟨S6144x1x16x16, .f32⟩

abbrev hbmTy0_6 (i : Nat) : BufTy := match i % 128 with
  | 0 => ⟨S2048x8, .f32⟩
  | 1 => ⟨S2048x8, .i1⟩
  | 2 => ⟨S_, .f32⟩
  | 3 => ⟨S_, .f32⟩
  | 4 => ⟨S2048x8, .f32⟩
  | 5 => ⟨S2048x8, .f32⟩
  | 6 => ⟨S2048x8, .f32⟩
  | 7 => ⟨S_, .f32⟩
  | 8 => ⟨S2048x8, .f32⟩
  | 9 => ⟨S2048x8, .f32⟩
  | 10 => ⟨S2048x8, .f32⟩
  | 11 => ⟨S2048x8, .f32⟩
  | 12 => ⟨S2048x8, .f32⟩
  | 13 => ⟨S8x1, .f32⟩
  | 14 => ⟨S2048x1, .f32⟩
  | 15 => ⟨S8x1, .f32⟩
  | 16 => ⟨S2048x1, .f32⟩
  | 17 => ⟨S1x2048, .f32⟩
  | 18 => ⟨S2048x2048, .f32⟩
  | 19 => ⟨S2048x2048, .f32⟩
  | 20 => ⟨S2048x2048, .f32⟩
  | 21 => ⟨S_, .f32⟩
  | 22 => ⟨S_, .f32⟩
  | 23 => ⟨S2048x2048, .f32⟩
  | 24 => ⟨S2048x2048, .i1⟩
  | 25 => ⟨S_, .f32⟩
  | 26 => ⟨S2048x2048, .f32⟩
  | 27 => ⟨S2048x2048, .f32⟩
  | 28 => ⟨S2048x2048, .f32⟩
  | 29 => ⟨S_, .f32⟩
  | 30 => ⟨S_, .f32⟩
  | 31 => ⟨S2048x1, .f32⟩
  | 32 => ⟨S2048x1, .f32⟩
  | 33 => ⟨S_, .f32⟩
  | 34 => ⟨S_, .f32⟩
  | 35 => ⟨S_, .f32⟩
  | 36 => ⟨S_, .f32⟩
  | 37 => ⟨S_, .f32⟩
  | 38 => ⟨S2048x1, .f32⟩
  | 39 => ⟨S2048x1, .f32⟩
  | 40 => ⟨S_, .f32⟩
  | 41 => ⟨S_, .f32⟩
  | 42 => ⟨S2048x1, .f32⟩
  | 43 => ⟨S2048x1, .f32⟩
  | 44 => ⟨S_, .f32⟩
  | 45 => ⟨S2048x2048, .f32⟩
  | 46 => ⟨S2048x2048, .i1⟩
  | 47 => ⟨S2048x2048, .f32⟩
  | 48 => ⟨S2048x2048, .f32⟩
  | 49 => ⟨S_, .f32⟩
  | 50 => ⟨S_, .f32⟩
  | 51 => ⟨S2048x2048, .f32⟩
  | 52 => ⟨S2048x2048, .f32⟩
  | 53 => ⟨S_, .f32⟩
  | 54 => ⟨S2048, .f32⟩
  | 55 => ⟨S_, .f32⟩
  | 56 => ⟨S2048, .f32⟩
  | 57 => ⟨S2048, .f32⟩
  | 58 => ⟨S2048x1, .f32⟩
  | 59 => ⟨S2048x2048, .f32⟩
  | 60 => ⟨S2048x2048, .f32⟩
  | 61 => ⟨S2048x2048, .f32⟩
  | 62 => ⟨S_, .f32⟩
  | 63 => ⟨S2048, .f32⟩
  | 64 => ⟨S2048x1, .f32⟩
  | 65 => ⟨S2048x2048, .f32⟩
  | 66 => ⟨S2048x2048, .f32⟩
  | 67 => ⟨S2048x2048, .f32⟩
  | 68 => ⟨S2048x8, .f32⟩
  | 69 => ⟨S_, .f32⟩
  | 70 => ⟨S2048x8, .f32⟩
  | 71 => ⟨S2048x8, .i1⟩
  | 72 => ⟨S_, .f32⟩
  | 73 => ⟨S2048x8, .f32⟩
  | 74 => ⟨S2048x8, .i1⟩
  | 75 => ⟨S_, .f32⟩
  | 76 => ⟨S_, .f32⟩
  | 77 => ⟨S2048x8, .f32⟩
  | 78 => ⟨S2048x8, .f32⟩
  | 79 => ⟨S2048x8, .f32⟩
  | 80 => ⟨S_, .f32⟩
  | 81 => ⟨S2048x8, .f32⟩
  | 82 => ⟨S2048x8, .f32⟩
  | 83 => ⟨S2048x8, .f32⟩
  | 84 => ⟨S2048x32, .f32⟩
  | 85 => ⟨S32x256, .f32⟩
  | 86 => ⟨S2048x256, .f32⟩
  | 87 => ⟨S1x256, .f32⟩
  | 88 => ⟨S2048x256, .f32⟩
  | 89 => ⟨S2048x256, .f32⟩
  | 90 => ⟨S_, .f32⟩
  | 91 => ⟨S2048x256, .f32⟩
  | 92 => ⟨S2048x256, .i1⟩
  | 93 => ⟨S_, .f32⟩
  | 94 => ⟨S2048x256, .f32⟩
  | 95 => ⟨S2048x256, .i1⟩
  | 96 => ⟨S_, .f32⟩
  | 97 => ⟨S_, .f32⟩
  | 98 => ⟨S2048x256, .f32⟩
  | 99 => ⟨S2048x256, .f32⟩
  | 100 => ⟨S2048x256, .f32⟩
  | 101 => ⟨S_, .f32⟩
  | 102 => ⟨S2048x256, .f32⟩
  | 103 => ⟨S2048x256, .f32⟩
  | 104 => ⟨S2048x256, .f32⟩
  | 105 => ⟨S1x16x16, .f32⟩
  | 106 => ⟨S16x16, .f32⟩
  | 107 => ⟨S16x2, .f32⟩
  | 108 => ⟨S1x16x16, .f32⟩
  | 109 => ⟨S16x16, .f32⟩
  | 110 => ⟨S16x2, .f32⟩
  | 111 => ⟨S16x2, .f32⟩
  | 112 => ⟨S16x2, .f32⟩
  | 113 => ⟨S16x2, .f32⟩
  | 114 => ⟨S_, .f32⟩
  | 115 => ⟨S16x2, .f32⟩
  | 116 => ⟨S16x2, .f32⟩
  | 117 => ⟨S_, .f32⟩
  | 118 => ⟨S16x2, .f32⟩
  | 119 => ⟨S16x2, .f32⟩
  | 120 => ⟨S1x16x16, .f32⟩
  | 121 => ⟨S16x16, .f32⟩
  | 122 => ⟨S16x2, .f32⟩
  | 123 => ⟨S1x16x16, .f32⟩
  | 124 => ⟨S16x16, .f32⟩
  | 125 => ⟨S16x2, .f32⟩
  | 126 => ⟨S16x2, .f32⟩
  | 127 => ⟨S16x2, .f32⟩
  | _ => ⟨S6144x1x16x16, .f32⟩

abbrev hbmTy0_7 (i : Nat) : BufTy := match i % 128 with
  | 0 => ⟨S16x2, .f32⟩
  | 1 => ⟨S_, .f32⟩
  | 2 => ⟨S16x2, .f32⟩
  | 3 => ⟨S16x2, .f32⟩
  | 4 => ⟨S_, .f32⟩
  | 5 => ⟨S16x2, .f32⟩
  | 6 => ⟨S16x2, .f32⟩
  | 7 => ⟨S1x16x16, .f32⟩
  | 8 => ⟨S16x16, .f32⟩
  | 9 => ⟨S16x2, .f32⟩
  | 10 => ⟨S1x16x16, .f32⟩
  | 11 => ⟨S16x16, .f32⟩
  | 12 => ⟨S16x2, .f32⟩
  | 13 => ⟨S16x2, .f32⟩
  | 14 => ⟨S16x2, .f32⟩
  | 15 => ⟨S16x2, .f32⟩
  | 16 => ⟨S_, .f32⟩
  | 17 => ⟨S16x2, .f32⟩
  | 18 => ⟨S16x2, .f32⟩
  | 19 => ⟨S16x2, .f32⟩
  | 20 => ⟨S16x2, .f32⟩
  | 21 => ⟨S16x2, .f32⟩
  | 22 => ⟨S1x16x16, .f32⟩
  | 23 => ⟨S16x16, .f32⟩
  | 24 => ⟨S16x2, .f32⟩
  | 25 => ⟨S1x16x16, .f32⟩
  | 26 => ⟨S16x16, .f32⟩
  | 27 => ⟨S16x2, .f32⟩
  | 28 => ⟨S16x2, .f32⟩
  | 29 => ⟨S16x2, .f32⟩
  | 30 => ⟨S16x2, .f32⟩
  | 31 => ⟨S_, .f32⟩
  | 32 => ⟨S16x2, .f32⟩
  | 33 => ⟨S16x2, .f32⟩
  | 34 => ⟨S_, .f32⟩
  | 35 => ⟨S16x2, .f32⟩
  | 36 => ⟨S16x2, .f32⟩
  | 37 => ⟨S1x16x16, .f32⟩
  | 38 => ⟨S16x16, .f32⟩
  | 39 => ⟨S16x2, .f32⟩
  | 40 => ⟨S1x16x16, .f32⟩
  | 41 => ⟨S16x16, .f32⟩
  | 42 => ⟨S16x2, .f32⟩
  | 43 => ⟨S16x2, .f32⟩
  | 44 => ⟨S16x2, .f32⟩
  | 45 => ⟨S16x2, .f32⟩
  | 46 => ⟨S_, .f32⟩
  | 47 => ⟨S16x2, .f32⟩
  | 48 => ⟨S16x2, .f32⟩
  | 49 => ⟨S_, .f32⟩
  | 50 => ⟨S16x2, .f32⟩
  | 51 => ⟨S16x2, .f32⟩
  | 52 => ⟨S1x16x16, .f32⟩
  | 53 => ⟨S16x16, .f32⟩
  | 54 => ⟨S16x2, .f32⟩
  | 55 => ⟨S1x16x16, .f32⟩
  | 56 => ⟨S16x16, .f32⟩
  | 57 => ⟨S16x2, .f32⟩
  | 58 => ⟨S16x2, .f32⟩
  | 59 => ⟨S16x2, .f32⟩
  | 60 => ⟨S16x2, .f32⟩
  | 61 => ⟨S_, .f32⟩
  | 62 => ⟨S16x2, .f32⟩
  | 63 => ⟨S16x2, .f32⟩
  | 64 => ⟨S16x2, .f32⟩
  | 65 => ⟨S16x2, .f32⟩
  | 66 => ⟨S16x2, .f32⟩
  | 67 => ⟨S1x16x16, .f32⟩
  | 68 => ⟨S16x16, .f32⟩
  | 69 => ⟨S16x2, .f32⟩
  | 70 => ⟨S1x16x16, .f32⟩
  | 71 => ⟨S16x16, .f32⟩
  | 72 => ⟨S16x2, .f32⟩
  | 73 => ⟨S16x2, .f32⟩
  | 74 => ⟨S16x2, .f32⟩
  | 75 => ⟨S16x2, .f32⟩
  | 76 => ⟨S_, .f32⟩
  | 77 => ⟨S16x2, .f32⟩
  | 78 => ⟨S16x2, .f32⟩
  | 79 => ⟨S_, .f32⟩
  | 80 => ⟨S16x2, .f32⟩
  | 81 => ⟨S16x2, .f32⟩
  | 82 => ⟨S1x16x16, .f32⟩
  | 83 => ⟨S16x16, .f32⟩
  | 84 => ⟨S16x2, .f32⟩
  | 85 => ⟨S1x16x16, .f32⟩
  | 86 => ⟨S16x16, .f32⟩
  | 87 => ⟨S16x2, .f32⟩
  | 88 => ⟨S16x2, .f32⟩
  | 89 => ⟨S16x2, .f32⟩
  | 90 => ⟨S16x2, .f32⟩
  | 91 => ⟨S_, .f32⟩
  | 92 => ⟨S16x2, .f32⟩
  | 93 => ⟨S16x2, .f32⟩
  | 94 => ⟨S_, .f32⟩
  | 95 => ⟨S16x2, .f32⟩
  | 96 => ⟨S16x2, .f32⟩
  | 97 => ⟨S1x16x16, .f32⟩
  | 98 => ⟨S16x16, .f32⟩
  | 99 => ⟨S16x2, .f32⟩
  | 100 => ⟨S1x16x16, .f32⟩
  | 101 => ⟨S16x16, .f32⟩
  | 102 => ⟨S16x2, .f32⟩
  | 103 => ⟨S16x2, .f32⟩
  | 104 => ⟨S16x2, .f32⟩
  | 105 => ⟨S16x2, .f32⟩
  | 106 => ⟨S_, .f32⟩
  | 107 => ⟨S16x2, .f32⟩
  | 108 => ⟨S16x2, .f32⟩
  | 109 => ⟨S16x2, .f32⟩
  | 110 => ⟨S16x2, .f32⟩
  | 111 => ⟨S16x2, .f32⟩
  | 112 => ⟨S2048x256, .f32⟩
  | 113 => ⟨S_, .f32⟩
  | 114 => ⟨S2048, .f32⟩
  | 115 => ⟨S2048, .f32⟩
  | 116 => ⟨S256x2048, .f32⟩
  | 117 => ⟨S2048x2048, .f32⟩
  | 118 => ⟨S2048x1, .f32⟩
  | 119 => ⟨S1x2048, .f32⟩
  | 120 => ⟨S2048x2048, .f32⟩
  | 121 => ⟨S2048x2048, .f32⟩
  | 122 => ⟨S2048x2048, .f32⟩
  | 123 => ⟨S2048x2048, .f32⟩
  | 124 => ⟨S2048x2048, .i32⟩
  | 125 => ⟨S2048x2048, .i32⟩
  | 126 => ⟨S_, .i32⟩
  | 127 => ⟨S2048x2048, .i32⟩
  | _ => ⟨S6144x1x16x16, .f32⟩

abbrev hbmTy0_8 (i : Nat) : BufTy := match i % 128 with
  | 0 => ⟨S2048x2048, .i32⟩
  | 1 => ⟨S2048x2048, .i1⟩
  | 2 => ⟨S2048x2048, .f32⟩
  | 3 => ⟨S_, .f32⟩
  | 4 => ⟨S2048x2048, .f32⟩
  | 5 => ⟨S2048x2048, .f32⟩
  | 6 => ⟨S_, .f32⟩
  | 7 => ⟨S2048x2048, .f32⟩
  | 8 => ⟨S2048x2048, .i1⟩
  | 9 => ⟨S_, .f32⟩
  | 10 => ⟨S_, .f32⟩
  | 11 => ⟨S2048x2048, .f32⟩
  | 12 => ⟨S2048x2048, .f32⟩
  | 13 => ⟨S2048x2048, .f32⟩
  | 14 => ⟨S2048x2048, .f32⟩
  | 15 => ⟨S_, .f32⟩
  | 16 => ⟨S2048x2048, .f32⟩
  | 17 => ⟨S2048x2048, .i1⟩
  | 18 => ⟨S2048x2048, .f32⟩
  | 19 => ⟨S2048x2048, .f32⟩
  | 20 => ⟨S2048x2048, .f32⟩
  | 21 => ⟨S_, .f32⟩
  | 22 => ⟨S2048, .f32⟩
  | 23 => ⟨S2048x1, .f32⟩
  | 24 => ⟨S2048x2048, .f32⟩
  | 25 => ⟨S2048x2048, .f32⟩
  | 26 => ⟨S_, .f32⟩
  | 27 => ⟨S2048, .f32⟩
  | 28 => ⟨S2048x1, .f32⟩
  | 29 => ⟨S16x1, .f32⟩
  | 30 => ⟨S16x1, .f32⟩
  | 31 => ⟨S256x8, .f32⟩
  | 32 => ⟨S2048x8, .f32⟩
  | 33 => ⟨S2048x8, .f32⟩
  | 34 => ⟨S2048x8, .f32⟩
  | 35 => ⟨S8x1, .f32⟩
  | 36 => ⟨S2048x1, .f32⟩
  | 37 => ⟨S8x1, .f32⟩
  | 38 => ⟨S2048x1, .f32⟩
  | 39 => ⟨S1x2048, .f32⟩
  | 40 => ⟨S2048x2048, .f32⟩
  | 41 => ⟨S2048x2048, .f32⟩
  | 42 => ⟨S2048x2048, .f32⟩
  | 43 => ⟨S_, .f32⟩
  | 44 => ⟨S_, .f32⟩
  | 45 => ⟨S2048x2048, .f32⟩
  | 46 => ⟨S2048x2048, .i1⟩
  | 47 => ⟨S_, .f32⟩
  | 48 => ⟨S2048x2048, .f32⟩
  | 49 => ⟨S2048x2048, .f32⟩
  | 50 => ⟨S2048x2048, .f32⟩
  | 51 => ⟨S_, .f32⟩
  | 52 => ⟨S_, .f32⟩
  | 53 => ⟨S2048x1, .f32⟩
  | 54 => ⟨S2048x1, .f32⟩
  | 55 => ⟨S_, .f32⟩
  | 56 => ⟨S_, .f32⟩
  | 57 => ⟨S_, .f32⟩
  | 58 => ⟨S_, .f32⟩
  | 59 => ⟨S_, .f32⟩
  | 60 => ⟨S2048x1, .f32⟩
  | 61 => ⟨S2048x1, .f32⟩
  | 62 => ⟨S_, .f32⟩
  | 63 => ⟨S_, .f32⟩
  | 64 => ⟨S2048x1, .f32⟩
  | 65 => ⟨S2048x1, .f32⟩
  | 66 => ⟨S_, .f32⟩
  | 67 => ⟨S2048x2048, .f32⟩
  | 68 => ⟨S2048x2048, .i1⟩
  | 69 => ⟨S2048x2048, .f32⟩
  | 70 => ⟨S2048x2048, .f32⟩
  | 71 => ⟨S_, .f32⟩
  | 72 => ⟨S_, .f32⟩
  | 73 => ⟨S2048x2048, .f32⟩
  | 74 => ⟨S2048x2048, .f32⟩
  | 75 => ⟨S_, .f32⟩
  | 76 => ⟨S2048, .f32⟩
  | 77 => ⟨S_, .f32⟩
  | 78 => ⟨S2048, .f32⟩
  | 79 => ⟨S2048, .f32⟩
  | 80 => ⟨S2048x1, .f32⟩
  | 81 => ⟨S2048x2048, .f32⟩
  | 82 => ⟨S2048x2048, .f32⟩
  | 83 => ⟨S2048x2048, .f32⟩
  | 84 => ⟨S_, .f32⟩
  | 85 => ⟨S2048, .f32⟩
  | 86 => ⟨S2048x1, .f32⟩
  | 87 => ⟨S2048x2048, .f32⟩
  | 88 => ⟨S2048x2048, .f32⟩
  | 89 => ⟨S2048x2048, .f32⟩
  | 90 => ⟨S2048x8, .f32⟩
  | 91 => ⟨S_, .f32⟩
  | 92 => ⟨S2048x8, .f32⟩
  | 93 => ⟨S2048x8, .i1⟩
  | 94 => ⟨S_, .f32⟩
  | 95 => ⟨S2048x8, .f32⟩
  | 96 => ⟨S2048x8, .i1⟩
  | 97 => ⟨S_, .f32⟩
  | 98 => ⟨S_, .f32⟩
  | 99 => ⟨S2048x8, .f32⟩
  | 100 => ⟨S2048x8, .f32⟩
  | 101 => ⟨S2048x8, .f32⟩
  | 102 => ⟨S_, .f32⟩
  | 103 => ⟨S2048x8, .f32⟩
  | 104 => ⟨S2048x8, .f32⟩
  | 105 => ⟨S2048x8, .f32⟩
  | 106 => ⟨S2048x8, .f32⟩
  | 107 => ⟨S2048x8, .f32⟩
  | 108 => ⟨S8x1, .f32⟩
  | 109 => ⟨S2048x1, .f32⟩
  | 110 => ⟨S8x1, .f32⟩
  | 111 => ⟨S2048x1, .f32⟩
  | 112 => ⟨S1x2048, .f32⟩
  | 113 => ⟨S2048x2048, .f32⟩
  | 114 => ⟨S2048x2048, .f32⟩
  | 115 => ⟨S2048x2048, .f32⟩
  | 116 => ⟨S_, .f32⟩
  | 117 => ⟨S_, .f32⟩
  | 118 => ⟨S2048x2048, .f32⟩
  | 119 => ⟨S2048x2048, .i1⟩
  | 120 => ⟨S_, .f32⟩
  | 121 => ⟨S2048x2048, .f32⟩
  | 122 => ⟨S2048x2048, .f32⟩
  | 123 => ⟨S2048x2048, .f32⟩
  | 124 => ⟨S_, .f32⟩
  | 125 => ⟨S_, .f32⟩
  | 126 => ⟨S2048x1, .f32⟩
  | 127 => ⟨S2048x1, .f32⟩
  | _ => ⟨S6144x1x16x16, .f32⟩

abbrev hbmTy0_9 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S2048x1, .f32⟩
  | 6 => ⟨S2048x1, .f32⟩
  | 7 => ⟨S_, .f32⟩
  | 8 => ⟨S_, .f32⟩
  | 9 => ⟨S2048x1, .f32⟩
  | 10 => ⟨S2048x1, .f32⟩
  | 11 => ⟨S_, .f32⟩
  | 12 => ⟨S2048x2048, .f32⟩
  | 13 => ⟨S2048x2048, .i1⟩
  | 14 => ⟨S2048x2048, .f32⟩
  | 15 => ⟨S2048x2048, .f32⟩
  | 16 => ⟨S_, .f32⟩
  | 17 => ⟨S_, .f32⟩
  | 18 => ⟨S2048x2048, .f32⟩
  | 19 => ⟨S2048x2048, .f32⟩
  | 20 => ⟨S_, .f32⟩
  | 21 => ⟨S2048, .f32⟩
  | 22 => ⟨S_, .f32⟩
  | 23 => ⟨S2048, .f32⟩
  | 24 => ⟨S2048, .f32⟩
  | 25 => ⟨S2048x1, .f32⟩
  | 26 => ⟨S2048x2048, .f32⟩
  | 27 => ⟨S2048x2048, .f32⟩
  | 28 => ⟨S2048x2048, .f32⟩
  | 29 => ⟨S_, .f32⟩
  | 30 => ⟨S2048, .f32⟩
  | 31 => ⟨S2048x1, .f32⟩
  | 32 => ⟨S2048x2048, .f32⟩
  | 33 => ⟨S2048x2048, .f32⟩
  | 34 => ⟨S2048x2048, .f32⟩
  | 35 => ⟨S2048x8, .f32⟩
  | 36 => ⟨S_, .f32⟩
  | 37 => ⟨S2048x8, .f32⟩
  | 38 => ⟨S2048x8, .i1⟩
  | 39 => ⟨S_, .f32⟩
  | 40 => ⟨S2048x8, .f32⟩
  | 41 => ⟨S2048x8, .i1⟩
  | 42 => ⟨S_, .f32⟩
  | 43 => ⟨S_, .f32⟩
  | 44 => ⟨S2048x8, .f32⟩
  | 45 => ⟨S2048x8, .f32⟩
  | 46 => ⟨S2048x8, .f32⟩
  | 47 => ⟨S_, .f32⟩
  | 48 => ⟨S2048x8, .f32⟩
  | 49 => ⟨S2048x8, .f32⟩
  | 50 => ⟨S2048x8, .f32⟩
  | _ => ⟨S6144x1x16x16, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | _ => ⟨S6144x1x16x16, .f32⟩

abbrev bufTy : (tb : Table) → Fin (tcTables nBuf tb) → BufTy
  | .hbm, ⟨i, _⟩ => hbmTy i
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x2048, .f32⟩
  | .local _ .vmem, ⟨7, _⟩ => ⟨S256x2048, .f32⟩
  | .local _ .vmem, ⟨8, _⟩ => ⟨S2048x256, .f32⟩
  | .local _ .vmem, ⟨9, _⟩ => ⟨S2048x256, .f32⟩
  | .local _ .vmem, ⟨10, _⟩ => ⟨S256x256, .f32⟩
  | .local _ .vmem, ⟨11, _⟩ => ⟨S256x256, .f32⟩
  | .local _ .vmem, ⟨12, _⟩ => ⟨S256x2048, .f32⟩
  | .local _ .vmem, ⟨13, _⟩ => ⟨S256x2048, .f32⟩
  | .local _ .vmem, ⟨14, _⟩ => ⟨S2048x256, .f32⟩
  | .local _ .vmem, ⟨15, _⟩ => ⟨S256x256, .f32⟩
  | .local _ .vmem, ⟨16, _⟩ => ⟨S256x256, .f32⟩
  | .local _ .vmem, ⟨17, _⟩ => ⟨S256x256, .f32⟩
  | .local _ .vmem, ⟨18, _⟩ => ⟨S256x256, .f32⟩
  | .local _ .vmem, ⟨19, _⟩ => ⟨S256x256, .f32⟩
  | .local _ .vmem, ⟨20, _⟩ => ⟨S256x256, .f32⟩
  | .local _ .vmem, ⟨21, _⟩ => ⟨S256x256, .f32⟩
  | .local _ .vmem, ⟨22, _⟩ => ⟨S256x2048, .f32⟩
  | .local _ .vmem, ⟨23, _⟩ => ⟨S256x2048, .f32⟩
  | .local _ .vmem, ⟨24, _⟩ => ⟨S2048x256, .f32⟩
  | .local _ .vmem, ⟨25, _⟩ => ⟨S256x256, .f32⟩
  | .local _ .vmem, ⟨26, _⟩ => ⟨S256x256, .f32⟩
  | .local _ .vmem, ⟨27, _⟩ => ⟨S256x256, .f32⟩
  | .local _ .vmem, ⟨28, _⟩ => ⟨S256x256, .f32⟩
  | .local _ .vmem, ⟨29, _⟩ => ⟨S256x256, .f32⟩
  | .local _ .vmem, ⟨30, _⟩ => ⟨S256x256, .f32⟩
  | .local _ .vmem, ⟨31, _⟩ => ⟨S256x256, .f32⟩
  | .local _ .vmem, ⟨32, _⟩ => ⟨S256x256, .f32⟩
  | .local _ .vmem, ⟨33, _⟩ => ⟨S256x2048, .f32⟩
  | .local _ .vmem, ⟨34, _⟩ => ⟨S256x2048, .f32⟩
  | .local _ .vmem, ⟨35, _⟩ => ⟨S2048x256, .f32⟩
  | .local _ .vmem, ⟨36, _⟩ => ⟨S2048x256, .f32⟩
  | .local _ .vmem, ⟨37, _⟩ => ⟨S256x256, .f32⟩
  | .local _ .vmem, ⟨38, _⟩ => ⟨S256x256, .f32⟩
  | .local _ .vmem, ⟨39, _⟩ => ⟨S256x256, .f32⟩
  | .local _ .vmem, ⟨40, _⟩ => ⟨S256x256, .f32⟩
  | .local _ .vmem, ⟨41, _⟩ => ⟨S256x256, .f32⟩
  | .local _ .vmem, ⟨42, _⟩ => ⟨S256x256, .f32⟩
  | .local _ .vmem, ⟨43, _⟩ => ⟨S256x256, .f32⟩
  | .local _ .vmem, ⟨44, _⟩ => ⟨S256x256, .f32⟩
  | .local _ .vmem, ⟨45, _⟩ => ⟨S256x2048, .f32⟩
  | .local _ .vmem, ⟨46, _⟩ => ⟨S256x2048, .f32⟩
  | .local _ .vmem, ⟨47, _⟩ => ⟨S2048x256, .f32⟩
  | .local _ .vmem, ⟨48, _⟩ => ⟨S2048x256, .f32⟩
  | .local _ .vmem, ⟨49, _⟩ => ⟨S256x256, .f32⟩
  | .local _ .vmem, ⟨50, _⟩ => ⟨S256x256, .f32⟩
  | _, _ => ⟨S6144x1x16x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | _, _ => false

abbrev semScoped : Fin 0 → Bool
  | ⟨_, h⟩ => absurd h (Nat.not_lt_zero _)

abbrev dmaSemScoped : Fin 51 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | _ => false

abbrev sig : RefSig :=
  ofTc nBuf bufTy 0 51 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_cst : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_0 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_1 : Ref sig .tc := ⟨.hbm, 29, rfl⟩
abbrev main_v15 : Ref sig .tc := ⟨.hbm, 30, rfl⟩
abbrev main_cst_2 : Ref sig .tc := ⟨.hbm, 31, rfl⟩
abbrev main_v16 : Ref sig .tc := ⟨.hbm, 32, rfl⟩
abbrev main_cst_3 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_4 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_5 : Ref sig .tc := ⟨.hbm, 43, rfl⟩
abbrev main_v25 : Ref sig .tc := ⟨.hbm, 44, rfl⟩
abbrev main_cst_6 : Ref sig .tc := ⟨.hbm, 45, rfl⟩
abbrev main_v26 : Ref sig .tc := ⟨.hbm, 46, rfl⟩
abbrev main_v27 : Ref sig .tc := ⟨.hbm, 47, rfl⟩
abbrev main_cst_7 : Ref sig .tc := ⟨.hbm, 48, rfl⟩
abbrev main_v28 : Ref sig .tc := ⟨.hbm, 49, rfl⟩
abbrev main_cst_8 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_9 : Ref sig .tc := ⟨.hbm, 77, rfl⟩
abbrev main_v55 : Ref sig .tc := ⟨.hbm, 78, rfl⟩
abbrev main_v56 : Ref sig .tc := ⟨.hbm, 79, rfl⟩
abbrev main_cst_10 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_cst_11 : Ref sig .tc := ⟨.hbm, 92, rfl⟩
abbrev main_v68 : Ref sig .tc := ⟨.hbm, 93, rfl⟩
abbrev main_v69 : Ref sig .tc := ⟨.hbm, 94, rfl⟩
abbrev main_cst_12 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_cst_13 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_cst_14 : Ref sig .tc := ⟨.hbm, 122, rfl⟩
abbrev main_v95 : Ref sig .tc := ⟨.hbm, 123, rfl⟩
abbrev main_v96 : Ref sig .tc := ⟨.hbm, 124, rfl⟩
abbrev main_cst_15 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_cst_16 : Ref sig .tc := ⟨.hbm, 137, rfl⟩
abbrev main_v108 : Ref sig .tc := ⟨.hbm, 138, rfl⟩
abbrev main_v109 : Ref sig .tc := ⟨.hbm, 139, rfl⟩
abbrev main_cst_17 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_v117 : Ref sig .tc := ⟨.hbm, 148, rfl⟩
abbrev main_v118 : Ref sig .tc := ⟨.hbm, 149, rfl⟩
abbrev main_v119 : Ref sig .tc := ⟨.hbm, 150, rfl⟩
abbrev main_v120 : Ref sig .tc := ⟨.hbm, 151, rfl⟩
abbrev main_cst_18 : Ref sig .tc := ⟨.hbm, 152, rfl⟩
abbrev main_v121 : Ref sig .tc := ⟨.hbm, 153, rfl⟩
abbrev main_v122 : Ref sig .tc := ⟨.hbm, 154, rfl⟩
abbrev main_v123 : Ref sig .tc := ⟨.hbm, 155, rfl⟩
abbrev main_v124 : Ref sig .tc := ⟨.hbm, 156, rfl⟩
abbrev main_v125 : Ref sig .tc := ⟨.hbm, 157, rfl⟩
abbrev main_v126 : Ref sig .tc := ⟨.hbm, 158, rfl⟩
abbrev main_v127 : Ref sig .tc := ⟨.hbm, 159, rfl⟩
abbrev main_v128 : Ref sig .tc := ⟨.hbm, 160, rfl⟩
abbrev main_v129 : Ref sig .tc := ⟨.hbm, 161, rfl⟩
abbrev main_v130 : Ref sig .tc := ⟨.hbm, 162, rfl⟩
abbrev main_v131 : Ref sig .tc := ⟨.hbm, 163, rfl⟩
abbrev main_v132 : Ref sig .tc := ⟨.hbm, 164, rfl⟩
abbrev main_v133 : Ref sig .tc := ⟨.hbm, 165, rfl⟩
abbrev main_v134 : Ref sig .tc := ⟨.hbm, 166, rfl⟩
abbrev main_cst_19 : Ref sig .tc := ⟨.hbm, 167, rfl⟩
abbrev main_v135 : Ref sig .tc := ⟨.hbm, 168, rfl⟩
abbrev main_v136 : Ref sig .tc := ⟨.hbm, 169, rfl⟩
abbrev main_cst_20 : Ref sig .tc := ⟨.hbm, 170, rfl⟩
abbrev main_v137 : Ref sig .tc := ⟨.hbm, 171, rfl⟩
abbrev main_v138 : Ref sig .tc := ⟨.hbm, 172, rfl⟩
abbrev main_v139 : Ref sig .tc := ⟨.hbm, 173, rfl⟩
abbrev main_v140 : Ref sig .tc := ⟨.hbm, 174, rfl⟩
abbrev main_v141 : Ref sig .tc := ⟨.hbm, 175, rfl⟩
abbrev main_v142 : Ref sig .tc := ⟨.hbm, 176, rfl⟩
abbrev main_v143 : Ref sig .tc := ⟨.hbm, 177, rfl⟩
abbrev main_v144 : Ref sig .tc := ⟨.hbm, 178, rfl⟩
abbrev main_v145 : Ref sig .tc := ⟨.hbm, 179, rfl⟩
abbrev main_v146 : Ref sig .tc := ⟨.hbm, 180, rfl⟩
abbrev main_v147 : Ref sig .tc := ⟨.hbm, 181, rfl⟩
abbrev main_cst_21 : Ref sig .tc := ⟨.hbm, 182, rfl⟩
abbrev main_v148 : Ref sig .tc := ⟨.hbm, 183, rfl⟩
abbrev main_v149 : Ref sig .tc := ⟨.hbm, 184, rfl⟩
abbrev main_cst_22 : Ref sig .tc := ⟨.hbm, 185, rfl⟩
abbrev main_v150 : Ref sig .tc := ⟨.hbm, 186, rfl⟩
abbrev main_v151 : Ref sig .tc := ⟨.hbm, 187, rfl⟩
abbrev main_v152 : Ref sig .tc := ⟨.hbm, 188, rfl⟩
abbrev main_v153 : Ref sig .tc := ⟨.hbm, 189, rfl⟩
abbrev main_v154 : Ref sig .tc := ⟨.hbm, 190, rfl⟩
abbrev main_v155 : Ref sig .tc := ⟨.hbm, 191, rfl⟩
abbrev main_v156 : Ref sig .tc := ⟨.hbm, 192, rfl⟩
abbrev main_v157 : Ref sig .tc := ⟨.hbm, 193, rfl⟩
abbrev main_v158 : Ref sig .tc := ⟨.hbm, 194, rfl⟩
abbrev main_v159 : Ref sig .tc := ⟨.hbm, 195, rfl⟩
abbrev main_v160 : Ref sig .tc := ⟨.hbm, 196, rfl⟩
abbrev main_cst_23 : Ref sig .tc := ⟨.hbm, 197, rfl⟩
abbrev main_v161 : Ref sig .tc := ⟨.hbm, 198, rfl⟩
abbrev main_v162 : Ref sig .tc := ⟨.hbm, 199, rfl⟩
abbrev main_v163 : Ref sig .tc := ⟨.hbm, 200, rfl⟩
abbrev main_v164 : Ref sig .tc := ⟨.hbm, 201, rfl⟩
abbrev main_v165 : Ref sig .tc := ⟨.hbm, 202, rfl⟩
abbrev main_v166 : Ref sig .tc := ⟨.hbm, 203, rfl⟩
abbrev main_cst_24 : Ref sig .tc := ⟨.hbm, 204, rfl⟩
abbrev main_v167 : Ref sig .tc := ⟨.hbm, 205, rfl⟩
abbrev main_v168 : Ref sig .tc := ⟨.hbm, 206, rfl⟩
abbrev main_v169 : Ref sig .tc := ⟨.hbm, 207, rfl⟩
abbrev main_v170 : Ref sig .tc := ⟨.hbm, 208, rfl⟩
abbrev main_v171 : Ref sig .tc := ⟨.hbm, 209, rfl⟩
abbrev main_v172 : Ref sig .tc := ⟨.hbm, 210, rfl⟩
abbrev main_v173 : Ref sig .tc := ⟨.hbm, 211, rfl⟩
abbrev main_v174 : Ref sig .tc := ⟨.hbm, 212, rfl⟩
abbrev main_v175 : Ref sig .tc := ⟨.hbm, 213, rfl⟩
abbrev main_v176 : Ref sig .tc := ⟨.hbm, 214, rfl⟩
abbrev main_v177 : Ref sig .tc := ⟨.hbm, 215, rfl⟩
abbrev main_v178 : Ref sig .tc := ⟨.hbm, 216, rfl⟩
abbrev main_c : Ref sig .tc := ⟨.hbm, 217, rfl⟩
abbrev main_v179 : Ref sig .tc := ⟨.hbm, 218, rfl⟩
abbrev main_v180 : Ref sig .tc := ⟨.hbm, 219, rfl⟩
abbrev main_v181 : Ref sig .tc := ⟨.hbm, 220, rfl⟩
abbrev main_v182 : Ref sig .tc := ⟨.hbm, 221, rfl⟩
abbrev main_cst_25 : Ref sig .tc := ⟨.hbm, 222, rfl⟩
abbrev main_v183 : Ref sig .tc := ⟨.hbm, 223, rfl⟩
abbrev main_v184 : Ref sig .tc := ⟨.hbm, 224, rfl⟩
abbrev main_cst_26 : Ref sig .tc := ⟨.hbm, 225, rfl⟩
abbrev main_v185 : Ref sig .tc := ⟨.hbm, 226, rfl⟩
abbrev main_v186 : Ref sig .tc := ⟨.hbm, 227, rfl⟩
abbrev main_cst_27 : Ref sig .tc := ⟨.hbm, 228, rfl⟩
abbrev main_call0_v0 : Ref sig .tc := ⟨.hbm, 229, rfl⟩
abbrev main_call0_v1 : Ref sig .tc := ⟨.hbm, 230, rfl⟩
abbrev main_v187 : Ref sig .tc := ⟨.hbm, 231, rfl⟩
abbrev main_v188 : Ref sig .tc := ⟨.hbm, 232, rfl⟩
abbrev main_v189 : Ref sig .tc := ⟨.hbm, 233, rfl⟩
abbrev main_cst_28 : Ref sig .tc := ⟨.hbm, 234, rfl⟩
abbrev main_v190 : Ref sig .tc := ⟨.hbm, 235, rfl⟩
abbrev main_v191 : Ref sig .tc := ⟨.hbm, 236, rfl⟩
abbrev main_v192 : Ref sig .tc := ⟨.hbm, 237, rfl⟩
abbrev main_v193 : Ref sig .tc := ⟨.hbm, 238, rfl⟩
abbrev main_v194 : Ref sig .tc := ⟨.hbm, 239, rfl⟩
abbrev main_cst_29 : Ref sig .tc := ⟨.hbm, 240, rfl⟩
abbrev main_v195 : Ref sig .tc := ⟨.hbm, 241, rfl⟩
abbrev main_v196 : Ref sig .tc := ⟨.hbm, 242, rfl⟩
abbrev main_v197 : Ref sig .tc := ⟨.hbm, 243, rfl⟩
abbrev main_v198 : Ref sig .tc := ⟨.hbm, 244, rfl⟩
abbrev main_cst_30 : Ref sig .tc := ⟨.hbm, 245, rfl⟩
abbrev main_v199 : Ref sig .tc := ⟨.hbm, 246, rfl⟩
abbrev main_v200 : Ref sig .tc := ⟨.hbm, 247, rfl⟩
abbrev main_v201 : Ref sig .tc := ⟨.hbm, 248, rfl⟩
abbrev main_v202 : Ref sig .tc := ⟨.hbm, 249, rfl⟩
abbrev main_v203 : Ref sig .tc := ⟨.hbm, 250, rfl⟩
abbrev main_v204 : Ref sig .tc := ⟨.hbm, 251, rfl⟩
abbrev main_v205 : Ref sig .tc := ⟨.hbm, 252, rfl⟩
abbrev main_v206 : Ref sig .tc := ⟨.hbm, 253, rfl⟩
abbrev main_v207 : Ref sig .tc := ⟨.hbm, 254, rfl⟩
abbrev main_v208 : Ref sig .tc := ⟨.hbm, 255, rfl⟩
abbrev main_v209 : Ref sig .tc := ⟨.hbm, 256, rfl⟩
abbrev main_v210 : Ref sig .tc := ⟨.hbm, 257, rfl⟩
abbrev main_v211 : Ref sig .tc := ⟨.hbm, 258, rfl⟩
abbrev main_v212 : Ref sig .tc := ⟨.hbm, 259, rfl⟩
abbrev main_v213 : Ref sig .tc := ⟨.hbm, 260, rfl⟩
abbrev main_v214 : Ref sig .tc := ⟨.hbm, 261, rfl⟩
abbrev main_v215 : Ref sig .tc := ⟨.hbm, 262, rfl⟩
abbrev main_cst_31 : Ref sig .tc := ⟨.hbm, 263, rfl⟩
abbrev main_call1_cst : Ref sig .tc := ⟨.hbm, 264, rfl⟩
abbrev main_call1_v0 : Ref sig .tc := ⟨.hbm, 265, rfl⟩
abbrev main_call1_v1 : Ref sig .tc := ⟨.hbm, 266, rfl⟩
abbrev main_call1_v2 : Ref sig .tc := ⟨.hbm, 267, rfl⟩
abbrev main_call1_v3 : Ref sig .tc := ⟨.hbm, 268, rfl⟩
abbrev main_call1_v4 : Ref sig .tc := ⟨.hbm, 269, rfl⟩
abbrev main_v216 : Ref sig .tc := ⟨.hbm, 270, rfl⟩
abbrev main_cst_32 : Ref sig .tc := ⟨.hbm, 271, rfl⟩
abbrev main_v217 : Ref sig .tc := ⟨.hbm, 272, rfl⟩
abbrev main_v218 : Ref sig .tc := ⟨.hbm, 273, rfl⟩
abbrev main_v219 : Ref sig .tc := ⟨.hbm, 274, rfl⟩
abbrev main_cst_33 : Ref sig .tc := ⟨.hbm, 275, rfl⟩
abbrev main_v220 : Ref sig .tc := ⟨.hbm, 276, rfl⟩
abbrev main_cst_34 : Ref sig .tc := ⟨.hbm, 277, rfl⟩
abbrev main_v221 : Ref sig .tc := ⟨.hbm, 278, rfl⟩
abbrev main_v222 : Ref sig .tc := ⟨.hbm, 279, rfl⟩
abbrev main_v223 : Ref sig .tc := ⟨.hbm, 280, rfl⟩
abbrev main_v224 : Ref sig .tc := ⟨.hbm, 281, rfl⟩
abbrev main_cst_35 : Ref sig .tc := ⟨.hbm, 282, rfl⟩
abbrev main_v225 : Ref sig .tc := ⟨.hbm, 283, rfl⟩
abbrev main_v226 : Ref sig .tc := ⟨.hbm, 284, rfl⟩
abbrev main_v227 : Ref sig .tc := ⟨.hbm, 285, rfl⟩
abbrev main_cst_36 : Ref sig .tc := ⟨.hbm, 286, rfl⟩
abbrev main_v228 : Ref sig .tc := ⟨.hbm, 287, rfl⟩
abbrev main_v229 : Ref sig .tc := ⟨.hbm, 288, rfl⟩
abbrev main_v230 : Ref sig .tc := ⟨.hbm, 289, rfl⟩
abbrev main_v231 : Ref sig .tc := ⟨.hbm, 290, rfl⟩
abbrev main_cst_37 : Ref sig .tc := ⟨.hbm, 291, rfl⟩
abbrev main_call2_v0 : Ref sig .tc := ⟨.hbm, 292, rfl⟩
abbrev main_call2_v1 : Ref sig .tc := ⟨.hbm, 293, rfl⟩
abbrev main_v232 : Ref sig .tc := ⟨.hbm, 294, rfl⟩
abbrev main_cst_38 : Ref sig .tc := ⟨.hbm, 295, rfl⟩
abbrev main_v233 : Ref sig .tc := ⟨.hbm, 296, rfl⟩
abbrev main_cst_39 : Ref sig .tc := ⟨.hbm, 297, rfl⟩
abbrev main_v234 : Ref sig .tc := ⟨.hbm, 298, rfl⟩
abbrev main_v235 : Ref sig .tc := ⟨.hbm, 299, rfl⟩
abbrev main_v236 : Ref sig .tc := ⟨.hbm, 300, rfl⟩
abbrev main_v237 : Ref sig .tc := ⟨.hbm, 301, rfl⟩
abbrev main_v238 : Ref sig .tc := ⟨.hbm, 302, rfl⟩
abbrev main_v239 : Ref sig .tc := ⟨.hbm, 303, rfl⟩
abbrev main_cst_40 : Ref sig .tc := ⟨.hbm, 304, rfl⟩
abbrev main_v240 : Ref sig .tc := ⟨.hbm, 305, rfl⟩
abbrev main_v241 : Ref sig .tc := ⟨.hbm, 306, rfl⟩
abbrev main_v242 : Ref sig .tc := ⟨.hbm, 307, rfl⟩
abbrev main_v243 : Ref sig .tc := ⟨.hbm, 308, rfl⟩
abbrev main_v244 : Ref sig .tc := ⟨.hbm, 309, rfl⟩
abbrev main_v245 : Ref sig .tc := ⟨.hbm, 310, rfl⟩
abbrev main_call3_cst : Ref sig .tc := ⟨.hbm, 311, rfl⟩
abbrev main_call3_v0 : Ref sig .tc := ⟨.hbm, 312, rfl⟩
abbrev main_call3_v1 : Ref sig .tc := ⟨.hbm, 313, rfl⟩
abbrev main_call3_cst_0 : Ref sig .tc := ⟨.hbm, 314, rfl⟩
abbrev main_call3_v2 : Ref sig .tc := ⟨.hbm, 315, rfl⟩
abbrev main_call3_v3 : Ref sig .tc := ⟨.hbm, 316, rfl⟩
abbrev main_call3_cst_1 : Ref sig .tc := ⟨.hbm, 317, rfl⟩
abbrev main_call3_call0_v0 : Ref sig .tc := ⟨.hbm, 318, rfl⟩
abbrev main_call3_call0_v1 : Ref sig .tc := ⟨.hbm, 319, rfl⟩
abbrev main_call3_v4 : Ref sig .tc := ⟨.hbm, 320, rfl⟩
abbrev main_call3_v5 : Ref sig .tc := ⟨.hbm, 321, rfl⟩
abbrev main_call3_cst_2 : Ref sig .tc := ⟨.hbm, 322, rfl⟩
abbrev main_call3_v6 : Ref sig .tc := ⟨.hbm, 323, rfl⟩
abbrev main_call3_v7 : Ref sig .tc := ⟨.hbm, 324, rfl⟩
abbrev main_v246 : Ref sig .tc := ⟨.hbm, 325, rfl⟩
abbrev main_v247 : Ref sig .tc := ⟨.hbm, 326, rfl⟩
abbrev main_v248 : Ref sig .tc := ⟨.hbm, 327, rfl⟩
abbrev main_v249 : Ref sig .tc := ⟨.hbm, 328, rfl⟩
abbrev main_v250 : Ref sig .tc := ⟨.hbm, 329, rfl⟩
abbrev main_v251 : Ref sig .tc := ⟨.hbm, 330, rfl⟩
abbrev main_v252 : Ref sig .tc := ⟨.hbm, 331, rfl⟩
abbrev main_v253 : Ref sig .tc := ⟨.hbm, 332, rfl⟩
abbrev main_v254 : Ref sig .tc := ⟨.hbm, 333, rfl⟩
abbrev main_v255 : Ref sig .tc := ⟨.hbm, 334, rfl⟩
abbrev main_v256 : Ref sig .tc := ⟨.hbm, 335, rfl⟩
abbrev main_cst_41 : Ref sig .tc := ⟨.hbm, 336, rfl⟩
abbrev main_call4_cst : Ref sig .tc := ⟨.hbm, 337, rfl⟩
abbrev main_call4_v0 : Ref sig .tc := ⟨.hbm, 338, rfl⟩
abbrev main_call4_v1 : Ref sig .tc := ⟨.hbm, 339, rfl⟩
abbrev main_call4_v2 : Ref sig .tc := ⟨.hbm, 340, rfl⟩
abbrev main_call4_v3 : Ref sig .tc := ⟨.hbm, 341, rfl⟩
abbrev main_call4_v4 : Ref sig .tc := ⟨.hbm, 342, rfl⟩
abbrev main_v257 : Ref sig .tc := ⟨.hbm, 343, rfl⟩
abbrev main_cst_42 : Ref sig .tc := ⟨.hbm, 344, rfl⟩
abbrev main_v258 : Ref sig .tc := ⟨.hbm, 345, rfl⟩
abbrev main_v259 : Ref sig .tc := ⟨.hbm, 346, rfl⟩
abbrev main_v260 : Ref sig .tc := ⟨.hbm, 347, rfl⟩
abbrev main_cst_43 : Ref sig .tc := ⟨.hbm, 348, rfl⟩
abbrev main_v261 : Ref sig .tc := ⟨.hbm, 349, rfl⟩
abbrev main_cst_44 : Ref sig .tc := ⟨.hbm, 350, rfl⟩
abbrev main_v262 : Ref sig .tc := ⟨.hbm, 351, rfl⟩
abbrev main_v263 : Ref sig .tc := ⟨.hbm, 352, rfl⟩
abbrev main_v264 : Ref sig .tc := ⟨.hbm, 353, rfl⟩
abbrev main_v265 : Ref sig .tc := ⟨.hbm, 354, rfl⟩
abbrev main_cst_45 : Ref sig .tc := ⟨.hbm, 355, rfl⟩
abbrev main_v266 : Ref sig .tc := ⟨.hbm, 356, rfl⟩
abbrev main_v267 : Ref sig .tc := ⟨.hbm, 357, rfl⟩
abbrev main_v268 : Ref sig .tc := ⟨.hbm, 358, rfl⟩
abbrev main_cst_46 : Ref sig .tc := ⟨.hbm, 359, rfl⟩
abbrev main_v269 : Ref sig .tc := ⟨.hbm, 360, rfl⟩
abbrev main_v270 : Ref sig .tc := ⟨.hbm, 361, rfl⟩
abbrev main_v271 : Ref sig .tc := ⟨.hbm, 362, rfl⟩
abbrev main_v272 : Ref sig .tc := ⟨.hbm, 363, rfl⟩
abbrev main_cst_47 : Ref sig .tc := ⟨.hbm, 364, rfl⟩
abbrev main_call5_v0 : Ref sig .tc := ⟨.hbm, 365, rfl⟩
abbrev main_call5_v1 : Ref sig .tc := ⟨.hbm, 366, rfl⟩
abbrev main_v273 : Ref sig .tc := ⟨.hbm, 367, rfl⟩
abbrev main_cst_48 : Ref sig .tc := ⟨.hbm, 368, rfl⟩
abbrev main_v274 : Ref sig .tc := ⟨.hbm, 369, rfl⟩
abbrev main_cst_49 : Ref sig .tc := ⟨.hbm, 370, rfl⟩
abbrev main_v275 : Ref sig .tc := ⟨.hbm, 371, rfl⟩
abbrev main_v276 : Ref sig .tc := ⟨.hbm, 372, rfl⟩
abbrev main_v277 : Ref sig .tc := ⟨.hbm, 373, rfl⟩
abbrev main_v278 : Ref sig .tc := ⟨.hbm, 374, rfl⟩
abbrev main_v279 : Ref sig .tc := ⟨.hbm, 375, rfl⟩
abbrev main_v280 : Ref sig .tc := ⟨.hbm, 376, rfl⟩
abbrev main_cst_50 : Ref sig .tc := ⟨.hbm, 377, rfl⟩
abbrev main_v281 : Ref sig .tc := ⟨.hbm, 378, rfl⟩
abbrev main_v282 : Ref sig .tc := ⟨.hbm, 379, rfl⟩
abbrev main_v283 : Ref sig .tc := ⟨.hbm, 380, rfl⟩
abbrev main_v284 : Ref sig .tc := ⟨.hbm, 381, rfl⟩
abbrev main_v285 : Ref sig .tc := ⟨.hbm, 382, rfl⟩
abbrev main_v286 : Ref sig .tc := ⟨.hbm, 383, rfl⟩
abbrev main_call6_cst : Ref sig .tc := ⟨.hbm, 384, rfl⟩
abbrev main_call6_v0 : Ref sig .tc := ⟨.hbm, 385, rfl⟩
abbrev main_call6_v1 : Ref sig .tc := ⟨.hbm, 386, rfl⟩
abbrev main_call6_cst_0 : Ref sig .tc := ⟨.hbm, 387, rfl⟩
abbrev main_call6_v2 : Ref sig .tc := ⟨.hbm, 388, rfl⟩
abbrev main_call6_v3 : Ref sig .tc := ⟨.hbm, 389, rfl⟩
abbrev main_call6_cst_1 : Ref sig .tc := ⟨.hbm, 390, rfl⟩
abbrev main_call6_call0_v0 : Ref sig .tc := ⟨.hbm, 391, rfl⟩
abbrev main_call6_call0_v1 : Ref sig .tc := ⟨.hbm, 392, rfl⟩
abbrev main_call6_v4 : Ref sig .tc := ⟨.hbm, 393, rfl⟩
abbrev main_call6_v5 : Ref sig .tc := ⟨.hbm, 394, rfl⟩
abbrev main_call6_cst_2 : Ref sig .tc := ⟨.hbm, 395, rfl⟩
abbrev main_call6_v6 : Ref sig .tc := ⟨.hbm, 396, rfl⟩
abbrev main_call6_v7 : Ref sig .tc := ⟨.hbm, 397, rfl⟩
abbrev main_v287 : Ref sig .tc := ⟨.hbm, 398, rfl⟩
abbrev main_v288 : Ref sig .tc := ⟨.hbm, 399, rfl⟩
abbrev main_v289 : Ref sig .tc := ⟨.hbm, 400, rfl⟩
abbrev main_v290 : Ref sig .tc := ⟨.hbm, 401, rfl⟩
abbrev main_v291 : Ref sig .tc := ⟨.hbm, 402, rfl⟩
abbrev main_v292 : Ref sig .tc := ⟨.hbm, 403, rfl⟩
abbrev main_v293 : Ref sig .tc := ⟨.hbm, 404, rfl⟩
abbrev main_v294 : Ref sig .tc := ⟨.hbm, 405, rfl⟩
abbrev main_v295 : Ref sig .tc := ⟨.hbm, 406, rfl⟩
abbrev main_v296 : Ref sig .tc := ⟨.hbm, 407, rfl⟩
abbrev main_v297 : Ref sig .tc := ⟨.hbm, 408, rfl⟩
abbrev main_v298 : Ref sig .tc := ⟨.hbm, 409, rfl⟩
abbrev main_v299 : Ref sig .tc := ⟨.hbm, 410, rfl⟩
abbrev main_v300 : Ref sig .tc := ⟨.hbm, 411, rfl⟩
abbrev main_v301 : Ref sig .tc := ⟨.hbm, 412, rfl⟩
abbrev main_v302 : Ref sig .tc := ⟨.hbm, 413, rfl⟩
abbrev main_cst_51 : Ref sig .tc := ⟨.hbm, 414, rfl⟩
abbrev main_call7_cst : Ref sig .tc := ⟨.hbm, 415, rfl⟩
abbrev main_call7_v0 : Ref sig .tc := ⟨.hbm, 416, rfl⟩
abbrev main_call7_v1 : Ref sig .tc := ⟨.hbm, 417, rfl⟩
abbrev main_call7_v2 : Ref sig .tc := ⟨.hbm, 418, rfl⟩
abbrev main_call7_v3 : Ref sig .tc := ⟨.hbm, 419, rfl⟩
abbrev main_call7_v4 : Ref sig .tc := ⟨.hbm, 420, rfl⟩
abbrev main_v303 : Ref sig .tc := ⟨.hbm, 421, rfl⟩
abbrev main_cst_52 : Ref sig .tc := ⟨.hbm, 422, rfl⟩
abbrev main_v304 : Ref sig .tc := ⟨.hbm, 423, rfl⟩
abbrev main_v305 : Ref sig .tc := ⟨.hbm, 424, rfl⟩
abbrev main_v306 : Ref sig .tc := ⟨.hbm, 425, rfl⟩
abbrev main_cst_53 : Ref sig .tc := ⟨.hbm, 426, rfl⟩
abbrev main_v307 : Ref sig .tc := ⟨.hbm, 427, rfl⟩
abbrev main_cst_54 : Ref sig .tc := ⟨.hbm, 428, rfl⟩
abbrev main_v308 : Ref sig .tc := ⟨.hbm, 429, rfl⟩
abbrev main_v309 : Ref sig .tc := ⟨.hbm, 430, rfl⟩
abbrev main_v310 : Ref sig .tc := ⟨.hbm, 431, rfl⟩
abbrev main_v311 : Ref sig .tc := ⟨.hbm, 432, rfl⟩
abbrev main_cst_55 : Ref sig .tc := ⟨.hbm, 433, rfl⟩
abbrev main_v312 : Ref sig .tc := ⟨.hbm, 434, rfl⟩
abbrev main_v313 : Ref sig .tc := ⟨.hbm, 435, rfl⟩
abbrev main_v314 : Ref sig .tc := ⟨.hbm, 436, rfl⟩
abbrev main_cst_56 : Ref sig .tc := ⟨.hbm, 437, rfl⟩
abbrev main_v315 : Ref sig .tc := ⟨.hbm, 438, rfl⟩
abbrev main_v316 : Ref sig .tc := ⟨.hbm, 439, rfl⟩
abbrev main_v317 : Ref sig .tc := ⟨.hbm, 440, rfl⟩
abbrev main_v318 : Ref sig .tc := ⟨.hbm, 441, rfl⟩
abbrev main_cst_57 : Ref sig .tc := ⟨.hbm, 442, rfl⟩
abbrev main_call8_v0 : Ref sig .tc := ⟨.hbm, 443, rfl⟩
abbrev main_call8_v1 : Ref sig .tc := ⟨.hbm, 444, rfl⟩
abbrev main_v319 : Ref sig .tc := ⟨.hbm, 445, rfl⟩
abbrev main_cst_58 : Ref sig .tc := ⟨.hbm, 446, rfl⟩
abbrev main_v320 : Ref sig .tc := ⟨.hbm, 447, rfl⟩
abbrev main_cst_59 : Ref sig .tc := ⟨.hbm, 448, rfl⟩
abbrev main_v321 : Ref sig .tc := ⟨.hbm, 449, rfl⟩
abbrev main_v322 : Ref sig .tc := ⟨.hbm, 450, rfl⟩
abbrev main_v323 : Ref sig .tc := ⟨.hbm, 451, rfl⟩
abbrev main_v324 : Ref sig .tc := ⟨.hbm, 452, rfl⟩
abbrev main_v325 : Ref sig .tc := ⟨.hbm, 453, rfl⟩
abbrev main_v326 : Ref sig .tc := ⟨.hbm, 454, rfl⟩
abbrev main_cst_60 : Ref sig .tc := ⟨.hbm, 455, rfl⟩
abbrev main_v327 : Ref sig .tc := ⟨.hbm, 456, rfl⟩
abbrev main_v328 : Ref sig .tc := ⟨.hbm, 457, rfl⟩
abbrev main_v329 : Ref sig .tc := ⟨.hbm, 458, rfl⟩
abbrev main_v330 : Ref sig .tc := ⟨.hbm, 459, rfl⟩
abbrev main_v331 : Ref sig .tc := ⟨.hbm, 460, rfl⟩
abbrev main_v332 : Ref sig .tc := ⟨.hbm, 461, rfl⟩
abbrev main_call9_cst : Ref sig .tc := ⟨.hbm, 462, rfl⟩
abbrev main_call9_v0 : Ref sig .tc := ⟨.hbm, 463, rfl⟩
abbrev main_call9_v1 : Ref sig .tc := ⟨.hbm, 464, rfl⟩
abbrev main_call9_cst_0 : Ref sig .tc := ⟨.hbm, 465, rfl⟩
abbrev main_call9_v2 : Ref sig .tc := ⟨.hbm, 466, rfl⟩
abbrev main_call9_v3 : Ref sig .tc := ⟨.hbm, 467, rfl⟩
abbrev main_call9_cst_1 : Ref sig .tc := ⟨.hbm, 468, rfl⟩
abbrev main_call9_call0_v0 : Ref sig .tc := ⟨.hbm, 469, rfl⟩
abbrev main_call9_call0_v1 : Ref sig .tc := ⟨.hbm, 470, rfl⟩
abbrev main_call9_v4 : Ref sig .tc := ⟨.hbm, 471, rfl⟩
abbrev main_call9_v5 : Ref sig .tc := ⟨.hbm, 472, rfl⟩
abbrev main_call9_cst_2 : Ref sig .tc := ⟨.hbm, 473, rfl⟩
abbrev main_call9_v6 : Ref sig .tc := ⟨.hbm, 474, rfl⟩
abbrev main_call9_v7 : Ref sig .tc := ⟨.hbm, 475, rfl⟩
abbrev main_v333 : Ref sig .tc := ⟨.hbm, 476, rfl⟩
abbrev main_v334 : Ref sig .tc := ⟨.hbm, 477, rfl⟩
abbrev main_v335 : Ref sig .tc := ⟨.hbm, 478, rfl⟩
abbrev main_v336 : Ref sig .tc := ⟨.hbm, 479, rfl⟩
abbrev main_v337 : Ref sig .tc := ⟨.hbm, 480, rfl⟩
abbrev main_v338 : Ref sig .tc := ⟨.hbm, 481, rfl⟩
abbrev main_v339 : Ref sig .tc := ⟨.hbm, 482, rfl⟩
abbrev main_v340 : Ref sig .tc := ⟨.hbm, 483, rfl⟩
abbrev main_v341 : Ref sig .tc := ⟨.hbm, 484, rfl⟩
abbrev main_v342 : Ref sig .tc := ⟨.hbm, 485, rfl⟩
abbrev main_v343 : Ref sig .tc := ⟨.hbm, 486, rfl⟩
abbrev main_cst_61 : Ref sig .tc := ⟨.hbm, 487, rfl⟩
abbrev main_call10_cst : Ref sig .tc := ⟨.hbm, 488, rfl⟩
abbrev main_call10_v0 : Ref sig .tc := ⟨.hbm, 489, rfl⟩
abbrev main_call10_v1 : Ref sig .tc := ⟨.hbm, 490, rfl⟩
abbrev main_call10_v2 : Ref sig .tc := ⟨.hbm, 491, rfl⟩
abbrev main_call10_v3 : Ref sig .tc := ⟨.hbm, 492, rfl⟩
abbrev main_call10_v4 : Ref sig .tc := ⟨.hbm, 493, rfl⟩
abbrev main_v344 : Ref sig .tc := ⟨.hbm, 494, rfl⟩
abbrev main_cst_62 : Ref sig .tc := ⟨.hbm, 495, rfl⟩
abbrev main_v345 : Ref sig .tc := ⟨.hbm, 496, rfl⟩
abbrev main_v346 : Ref sig .tc := ⟨.hbm, 497, rfl⟩
abbrev main_v347 : Ref sig .tc := ⟨.hbm, 498, rfl⟩
abbrev main_cst_63 : Ref sig .tc := ⟨.hbm, 499, rfl⟩
abbrev main_v348 : Ref sig .tc := ⟨.hbm, 500, rfl⟩
abbrev main_cst_64 : Ref sig .tc := ⟨.hbm, 501, rfl⟩
abbrev main_v349 : Ref sig .tc := ⟨.hbm, 502, rfl⟩
abbrev main_v350 : Ref sig .tc := ⟨.hbm, 503, rfl⟩
abbrev main_v351 : Ref sig .tc := ⟨.hbm, 504, rfl⟩
abbrev main_v352 : Ref sig .tc := ⟨.hbm, 505, rfl⟩
abbrev main_cst_65 : Ref sig .tc := ⟨.hbm, 506, rfl⟩
abbrev main_v353 : Ref sig .tc := ⟨.hbm, 507, rfl⟩
abbrev main_v354 : Ref sig .tc := ⟨.hbm, 508, rfl⟩
abbrev main_v355 : Ref sig .tc := ⟨.hbm, 509, rfl⟩
abbrev main_cst_66 : Ref sig .tc := ⟨.hbm, 510, rfl⟩
abbrev main_v356 : Ref sig .tc := ⟨.hbm, 511, rfl⟩
abbrev main_v357 : Ref sig .tc := ⟨.hbm, 512, rfl⟩
abbrev main_v358 : Ref sig .tc := ⟨.hbm, 513, rfl⟩
abbrev main_v359 : Ref sig .tc := ⟨.hbm, 514, rfl⟩
abbrev main_cst_67 : Ref sig .tc := ⟨.hbm, 515, rfl⟩
abbrev main_call11_v0 : Ref sig .tc := ⟨.hbm, 516, rfl⟩
abbrev main_call11_v1 : Ref sig .tc := ⟨.hbm, 517, rfl⟩
abbrev main_v360 : Ref sig .tc := ⟨.hbm, 518, rfl⟩
abbrev main_cst_68 : Ref sig .tc := ⟨.hbm, 519, rfl⟩
abbrev main_v361 : Ref sig .tc := ⟨.hbm, 520, rfl⟩
abbrev main_cst_69 : Ref sig .tc := ⟨.hbm, 521, rfl⟩
abbrev main_v362 : Ref sig .tc := ⟨.hbm, 522, rfl⟩
abbrev main_v363 : Ref sig .tc := ⟨.hbm, 523, rfl⟩
abbrev main_v364 : Ref sig .tc := ⟨.hbm, 524, rfl⟩
abbrev main_v365 : Ref sig .tc := ⟨.hbm, 525, rfl⟩
abbrev main_v366 : Ref sig .tc := ⟨.hbm, 526, rfl⟩
abbrev main_v367 : Ref sig .tc := ⟨.hbm, 527, rfl⟩
abbrev main_cst_70 : Ref sig .tc := ⟨.hbm, 528, rfl⟩
abbrev main_v368 : Ref sig .tc := ⟨.hbm, 529, rfl⟩
abbrev main_v369 : Ref sig .tc := ⟨.hbm, 530, rfl⟩
abbrev main_v370 : Ref sig .tc := ⟨.hbm, 531, rfl⟩
abbrev main_v371 : Ref sig .tc := ⟨.hbm, 532, rfl⟩
abbrev main_v372 : Ref sig .tc := ⟨.hbm, 533, rfl⟩
abbrev main_v373 : Ref sig .tc := ⟨.hbm, 534, rfl⟩
abbrev main_call12_cst : Ref sig .tc := ⟨.hbm, 535, rfl⟩
abbrev main_call12_v0 : Ref sig .tc := ⟨.hbm, 536, rfl⟩
abbrev main_call12_v1 : Ref sig .tc := ⟨.hbm, 537, rfl⟩
abbrev main_call12_cst_0 : Ref sig .tc := ⟨.hbm, 538, rfl⟩
abbrev main_call12_v2 : Ref sig .tc := ⟨.hbm, 539, rfl⟩
abbrev main_call12_v3 : Ref sig .tc := ⟨.hbm, 540, rfl⟩
abbrev main_call12_cst_1 : Ref sig .tc := ⟨.hbm, 541, rfl⟩
abbrev main_call12_call0_v0 : Ref sig .tc := ⟨.hbm, 542, rfl⟩
abbrev main_call12_call0_v1 : Ref sig .tc := ⟨.hbm, 543, rfl⟩
abbrev main_call12_v4 : Ref sig .tc := ⟨.hbm, 544, rfl⟩
abbrev main_call12_v5 : Ref sig .tc := ⟨.hbm, 545, rfl⟩
abbrev main_call12_cst_2 : Ref sig .tc := ⟨.hbm, 546, rfl⟩
abbrev main_call12_v6 : Ref sig .tc := ⟨.hbm, 547, rfl⟩
abbrev main_call12_v7 : Ref sig .tc := ⟨.hbm, 548, rfl⟩
abbrev main_v374 : Ref sig .tc := ⟨.hbm, 549, rfl⟩
abbrev main_v375 : Ref sig .tc := ⟨.hbm, 550, rfl⟩
abbrev main_v376 : Ref sig .tc := ⟨.hbm, 551, rfl⟩
abbrev main_v377 : Ref sig .tc := ⟨.hbm, 552, rfl⟩
abbrev main_v378 : Ref sig .tc := ⟨.hbm, 553, rfl⟩
abbrev main_v379 : Ref sig .tc := ⟨.hbm, 554, rfl⟩
abbrev main_v380 : Ref sig .tc := ⟨.hbm, 555, rfl⟩
abbrev main_v381 : Ref sig .tc := ⟨.hbm, 556, rfl⟩
abbrev main_v382 : Ref sig .tc := ⟨.hbm, 557, rfl⟩
abbrev main_v383 : Ref sig .tc := ⟨.hbm, 558, rfl⟩
abbrev main_v384 : Ref sig .tc := ⟨.hbm, 559, rfl⟩
abbrev main_v385 : Ref sig .tc := ⟨.hbm, 560, rfl⟩
abbrev main_v386 : Ref sig .tc := ⟨.hbm, 561, rfl⟩
abbrev main_v387 : Ref sig .tc := ⟨.hbm, 562, rfl⟩
abbrev main_v388 : Ref sig .tc := ⟨.hbm, 563, rfl⟩
abbrev main_v389 : Ref sig .tc := ⟨.hbm, 564, rfl⟩
abbrev main_cst_71 : Ref sig .tc := ⟨.hbm, 565, rfl⟩
abbrev main_call13_cst : Ref sig .tc := ⟨.hbm, 566, rfl⟩
abbrev main_call13_v0 : Ref sig .tc := ⟨.hbm, 567, rfl⟩
abbrev main_call13_v1 : Ref sig .tc := ⟨.hbm, 568, rfl⟩
abbrev main_call13_v2 : Ref sig .tc := ⟨.hbm, 569, rfl⟩
abbrev main_call13_v3 : Ref sig .tc := ⟨.hbm, 570, rfl⟩
abbrev main_call13_v4 : Ref sig .tc := ⟨.hbm, 571, rfl⟩
abbrev main_v390 : Ref sig .tc := ⟨.hbm, 572, rfl⟩
abbrev main_cst_72 : Ref sig .tc := ⟨.hbm, 573, rfl⟩
abbrev main_v391 : Ref sig .tc := ⟨.hbm, 574, rfl⟩
abbrev main_v392 : Ref sig .tc := ⟨.hbm, 575, rfl⟩
abbrev main_v393 : Ref sig .tc := ⟨.hbm, 576, rfl⟩
abbrev main_cst_73 : Ref sig .tc := ⟨.hbm, 577, rfl⟩
abbrev main_v394 : Ref sig .tc := ⟨.hbm, 578, rfl⟩
abbrev main_cst_74 : Ref sig .tc := ⟨.hbm, 579, rfl⟩
abbrev main_v395 : Ref sig .tc := ⟨.hbm, 580, rfl⟩
abbrev main_v396 : Ref sig .tc := ⟨.hbm, 581, rfl⟩
abbrev main_v397 : Ref sig .tc := ⟨.hbm, 582, rfl⟩
abbrev main_v398 : Ref sig .tc := ⟨.hbm, 583, rfl⟩
abbrev main_cst_75 : Ref sig .tc := ⟨.hbm, 584, rfl⟩
abbrev main_v399 : Ref sig .tc := ⟨.hbm, 585, rfl⟩
abbrev main_v400 : Ref sig .tc := ⟨.hbm, 586, rfl⟩
abbrev main_v401 : Ref sig .tc := ⟨.hbm, 587, rfl⟩
abbrev main_cst_76 : Ref sig .tc := ⟨.hbm, 588, rfl⟩
abbrev main_v402 : Ref sig .tc := ⟨.hbm, 589, rfl⟩
abbrev main_v403 : Ref sig .tc := ⟨.hbm, 590, rfl⟩
abbrev main_v404 : Ref sig .tc := ⟨.hbm, 591, rfl⟩
abbrev main_v405 : Ref sig .tc := ⟨.hbm, 592, rfl⟩
abbrev main_cst_77 : Ref sig .tc := ⟨.hbm, 593, rfl⟩
abbrev main_call14_v0 : Ref sig .tc := ⟨.hbm, 594, rfl⟩
abbrev main_call14_v1 : Ref sig .tc := ⟨.hbm, 595, rfl⟩
abbrev main_v406 : Ref sig .tc := ⟨.hbm, 596, rfl⟩
abbrev main_cst_78 : Ref sig .tc := ⟨.hbm, 597, rfl⟩
abbrev main_v407 : Ref sig .tc := ⟨.hbm, 598, rfl⟩
abbrev main_cst_79 : Ref sig .tc := ⟨.hbm, 599, rfl⟩
abbrev main_v408 : Ref sig .tc := ⟨.hbm, 600, rfl⟩
abbrev main_v409 : Ref sig .tc := ⟨.hbm, 601, rfl⟩
abbrev main_v410 : Ref sig .tc := ⟨.hbm, 602, rfl⟩
abbrev main_v411 : Ref sig .tc := ⟨.hbm, 603, rfl⟩
abbrev main_v412 : Ref sig .tc := ⟨.hbm, 604, rfl⟩
abbrev main_v413 : Ref sig .tc := ⟨.hbm, 605, rfl⟩
abbrev main_cst_80 : Ref sig .tc := ⟨.hbm, 606, rfl⟩
abbrev main_v414 : Ref sig .tc := ⟨.hbm, 607, rfl⟩
abbrev main_v415 : Ref sig .tc := ⟨.hbm, 608, rfl⟩
abbrev main_v416 : Ref sig .tc := ⟨.hbm, 609, rfl⟩
abbrev main_v417 : Ref sig .tc := ⟨.hbm, 610, rfl⟩
abbrev main_v418 : Ref sig .tc := ⟨.hbm, 611, rfl⟩
abbrev main_v419 : Ref sig .tc := ⟨.hbm, 612, rfl⟩
abbrev main_call15_cst : Ref sig .tc := ⟨.hbm, 613, rfl⟩
abbrev main_call15_v0 : Ref sig .tc := ⟨.hbm, 614, rfl⟩
abbrev main_call15_v1 : Ref sig .tc := ⟨.hbm, 615, rfl⟩
abbrev main_call15_cst_0 : Ref sig .tc := ⟨.hbm, 616, rfl⟩
abbrev main_call15_v2 : Ref sig .tc := ⟨.hbm, 617, rfl⟩
abbrev main_call15_v3 : Ref sig .tc := ⟨.hbm, 618, rfl⟩
abbrev main_call15_cst_1 : Ref sig .tc := ⟨.hbm, 619, rfl⟩
abbrev main_call15_call0_v0 : Ref sig .tc := ⟨.hbm, 620, rfl⟩
abbrev main_call15_call0_v1 : Ref sig .tc := ⟨.hbm, 621, rfl⟩
abbrev main_call15_v4 : Ref sig .tc := ⟨.hbm, 622, rfl⟩
abbrev main_call15_v5 : Ref sig .tc := ⟨.hbm, 623, rfl⟩
abbrev main_call15_cst_2 : Ref sig .tc := ⟨.hbm, 624, rfl⟩
abbrev main_call15_v6 : Ref sig .tc := ⟨.hbm, 625, rfl⟩
abbrev main_call15_v7 : Ref sig .tc := ⟨.hbm, 626, rfl⟩
abbrev main_v420 : Ref sig .tc := ⟨.hbm, 627, rfl⟩
abbrev main_v421 : Ref sig .tc := ⟨.hbm, 628, rfl⟩
abbrev main_v422 : Ref sig .tc := ⟨.hbm, 629, rfl⟩
abbrev main_v423 : Ref sig .tc := ⟨.hbm, 630, rfl⟩
abbrev main_v424 : Ref sig .tc := ⟨.hbm, 631, rfl⟩
abbrev main_v425 : Ref sig .tc := ⟨.hbm, 632, rfl⟩
abbrev main_v426 : Ref sig .tc := ⟨.hbm, 633, rfl⟩
abbrev main_v427 : Ref sig .tc := ⟨.hbm, 634, rfl⟩
abbrev main_v428 : Ref sig .tc := ⟨.hbm, 635, rfl⟩
abbrev main_v429 : Ref sig .tc := ⟨.hbm, 636, rfl⟩
abbrev main_v430 : Ref sig .tc := ⟨.hbm, 637, rfl⟩
abbrev main_cst_81 : Ref sig .tc := ⟨.hbm, 638, rfl⟩
abbrev main_call16_cst : Ref sig .tc := ⟨.hbm, 639, rfl⟩
abbrev main_call16_v0 : Ref sig .tc := ⟨.hbm, 640, rfl⟩
abbrev main_call16_v1 : Ref sig .tc := ⟨.hbm, 641, rfl⟩
abbrev main_call16_v2 : Ref sig .tc := ⟨.hbm, 642, rfl⟩
abbrev main_call16_v3 : Ref sig .tc := ⟨.hbm, 643, rfl⟩
abbrev main_call16_v4 : Ref sig .tc := ⟨.hbm, 644, rfl⟩
abbrev main_v431 : Ref sig .tc := ⟨.hbm, 645, rfl⟩
abbrev main_cst_82 : Ref sig .tc := ⟨.hbm, 646, rfl⟩
abbrev main_v432 : Ref sig .tc := ⟨.hbm, 647, rfl⟩
abbrev main_v433 : Ref sig .tc := ⟨.hbm, 648, rfl⟩
abbrev main_v434 : Ref sig .tc := ⟨.hbm, 649, rfl⟩
abbrev main_cst_83 : Ref sig .tc := ⟨.hbm, 650, rfl⟩
abbrev main_v435 : Ref sig .tc := ⟨.hbm, 651, rfl⟩
abbrev main_cst_84 : Ref sig .tc := ⟨.hbm, 652, rfl⟩
abbrev main_v436 : Ref sig .tc := ⟨.hbm, 653, rfl⟩
abbrev main_v437 : Ref sig .tc := ⟨.hbm, 654, rfl⟩
abbrev main_v438 : Ref sig .tc := ⟨.hbm, 655, rfl⟩
abbrev main_v439 : Ref sig .tc := ⟨.hbm, 656, rfl⟩
abbrev main_cst_85 : Ref sig .tc := ⟨.hbm, 657, rfl⟩
abbrev main_v440 : Ref sig .tc := ⟨.hbm, 658, rfl⟩
abbrev main_v441 : Ref sig .tc := ⟨.hbm, 659, rfl⟩
abbrev main_v442 : Ref sig .tc := ⟨.hbm, 660, rfl⟩
abbrev main_cst_86 : Ref sig .tc := ⟨.hbm, 661, rfl⟩
abbrev main_v443 : Ref sig .tc := ⟨.hbm, 662, rfl⟩
abbrev main_v444 : Ref sig .tc := ⟨.hbm, 663, rfl⟩
abbrev main_v445 : Ref sig .tc := ⟨.hbm, 664, rfl⟩
abbrev main_v446 : Ref sig .tc := ⟨.hbm, 665, rfl⟩
abbrev main_cst_87 : Ref sig .tc := ⟨.hbm, 666, rfl⟩
abbrev main_call17_v0 : Ref sig .tc := ⟨.hbm, 667, rfl⟩
abbrev main_call17_v1 : Ref sig .tc := ⟨.hbm, 668, rfl⟩
abbrev main_v447 : Ref sig .tc := ⟨.hbm, 669, rfl⟩
abbrev main_cst_88 : Ref sig .tc := ⟨.hbm, 670, rfl⟩
abbrev main_v448 : Ref sig .tc := ⟨.hbm, 671, rfl⟩
abbrev main_cst_89 : Ref sig .tc := ⟨.hbm, 672, rfl⟩
abbrev main_v449 : Ref sig .tc := ⟨.hbm, 673, rfl⟩
abbrev main_v450 : Ref sig .tc := ⟨.hbm, 674, rfl⟩
abbrev main_v451 : Ref sig .tc := ⟨.hbm, 675, rfl⟩
abbrev main_v452 : Ref sig .tc := ⟨.hbm, 676, rfl⟩
abbrev main_v453 : Ref sig .tc := ⟨.hbm, 677, rfl⟩
abbrev main_v454 : Ref sig .tc := ⟨.hbm, 678, rfl⟩
abbrev main_cst_90 : Ref sig .tc := ⟨.hbm, 679, rfl⟩
abbrev main_v455 : Ref sig .tc := ⟨.hbm, 680, rfl⟩
abbrev main_v456 : Ref sig .tc := ⟨.hbm, 681, rfl⟩
abbrev main_v457 : Ref sig .tc := ⟨.hbm, 682, rfl⟩
abbrev main_v458 : Ref sig .tc := ⟨.hbm, 683, rfl⟩
abbrev main_v459 : Ref sig .tc := ⟨.hbm, 684, rfl⟩
abbrev main_v460 : Ref sig .tc := ⟨.hbm, 685, rfl⟩
abbrev main_call18_cst : Ref sig .tc := ⟨.hbm, 686, rfl⟩
abbrev main_call18_v0 : Ref sig .tc := ⟨.hbm, 687, rfl⟩
abbrev main_call18_v1 : Ref sig .tc := ⟨.hbm, 688, rfl⟩
abbrev main_call18_cst_0 : Ref sig .tc := ⟨.hbm, 689, rfl⟩
abbrev main_call18_v2 : Ref sig .tc := ⟨.hbm, 690, rfl⟩
abbrev main_call18_v3 : Ref sig .tc := ⟨.hbm, 691, rfl⟩
abbrev main_call18_cst_1 : Ref sig .tc := ⟨.hbm, 692, rfl⟩
abbrev main_call18_call0_v0 : Ref sig .tc := ⟨.hbm, 693, rfl⟩
abbrev main_call18_call0_v1 : Ref sig .tc := ⟨.hbm, 694, rfl⟩
abbrev main_call18_v4 : Ref sig .tc := ⟨.hbm, 695, rfl⟩
abbrev main_call18_v5 : Ref sig .tc := ⟨.hbm, 696, rfl⟩
abbrev main_call18_cst_2 : Ref sig .tc := ⟨.hbm, 697, rfl⟩
abbrev main_call18_v6 : Ref sig .tc := ⟨.hbm, 698, rfl⟩
abbrev main_call18_v7 : Ref sig .tc := ⟨.hbm, 699, rfl⟩
abbrev main_v461 : Ref sig .tc := ⟨.hbm, 700, rfl⟩
abbrev main_v462 : Ref sig .tc := ⟨.hbm, 701, rfl⟩
abbrev main_v463 : Ref sig .tc := ⟨.hbm, 702, rfl⟩
abbrev main_v464 : Ref sig .tc := ⟨.hbm, 703, rfl⟩
abbrev main_v465 : Ref sig .tc := ⟨.hbm, 704, rfl⟩
abbrev main_v466 : Ref sig .tc := ⟨.hbm, 705, rfl⟩
abbrev main_v467 : Ref sig .tc := ⟨.hbm, 706, rfl⟩
abbrev main_v468 : Ref sig .tc := ⟨.hbm, 707, rfl⟩
abbrev main_v469 : Ref sig .tc := ⟨.hbm, 708, rfl⟩
abbrev main_v470 : Ref sig .tc := ⟨.hbm, 709, rfl⟩
abbrev main_v471 : Ref sig .tc := ⟨.hbm, 710, rfl⟩
abbrev main_v472 : Ref sig .tc := ⟨.hbm, 711, rfl⟩
abbrev main_v473 : Ref sig .tc := ⟨.hbm, 712, rfl⟩
abbrev main_v474 : Ref sig .tc := ⟨.hbm, 713, rfl⟩
abbrev main_v475 : Ref sig .tc := ⟨.hbm, 714, rfl⟩
abbrev main_v476 : Ref sig .tc := ⟨.hbm, 715, rfl⟩
abbrev main_cst_91 : Ref sig .tc := ⟨.hbm, 716, rfl⟩
abbrev main_call19_cst : Ref sig .tc := ⟨.hbm, 717, rfl⟩
abbrev main_call19_v0 : Ref sig .tc := ⟨.hbm, 718, rfl⟩
abbrev main_call19_v1 : Ref sig .tc := ⟨.hbm, 719, rfl⟩
abbrev main_call19_v2 : Ref sig .tc := ⟨.hbm, 720, rfl⟩
abbrev main_call19_v3 : Ref sig .tc := ⟨.hbm, 721, rfl⟩
abbrev main_call19_v4 : Ref sig .tc := ⟨.hbm, 722, rfl⟩
abbrev main_v477 : Ref sig .tc := ⟨.hbm, 723, rfl⟩
abbrev main_cst_92 : Ref sig .tc := ⟨.hbm, 724, rfl⟩
abbrev main_v478 : Ref sig .tc := ⟨.hbm, 725, rfl⟩
abbrev main_v479 : Ref sig .tc := ⟨.hbm, 726, rfl⟩
abbrev main_v480 : Ref sig .tc := ⟨.hbm, 727, rfl⟩
abbrev main_cst_93 : Ref sig .tc := ⟨.hbm, 728, rfl⟩
abbrev main_v481 : Ref sig .tc := ⟨.hbm, 729, rfl⟩
abbrev main_cst_94 : Ref sig .tc := ⟨.hbm, 730, rfl⟩
abbrev main_v482 : Ref sig .tc := ⟨.hbm, 731, rfl⟩
abbrev main_v483 : Ref sig .tc := ⟨.hbm, 732, rfl⟩
abbrev main_v484 : Ref sig .tc := ⟨.hbm, 733, rfl⟩
abbrev main_v485 : Ref sig .tc := ⟨.hbm, 734, rfl⟩
abbrev main_cst_95 : Ref sig .tc := ⟨.hbm, 735, rfl⟩
abbrev main_v486 : Ref sig .tc := ⟨.hbm, 736, rfl⟩
abbrev main_v487 : Ref sig .tc := ⟨.hbm, 737, rfl⟩
abbrev main_v488 : Ref sig .tc := ⟨.hbm, 738, rfl⟩
abbrev main_cst_96 : Ref sig .tc := ⟨.hbm, 739, rfl⟩
abbrev main_v489 : Ref sig .tc := ⟨.hbm, 740, rfl⟩
abbrev main_v490 : Ref sig .tc := ⟨.hbm, 741, rfl⟩
abbrev main_v491 : Ref sig .tc := ⟨.hbm, 742, rfl⟩
abbrev main_v492 : Ref sig .tc := ⟨.hbm, 743, rfl⟩
abbrev main_cst_97 : Ref sig .tc := ⟨.hbm, 744, rfl⟩
abbrev main_call20_v0 : Ref sig .tc := ⟨.hbm, 745, rfl⟩
abbrev main_call20_v1 : Ref sig .tc := ⟨.hbm, 746, rfl⟩
abbrev main_v493 : Ref sig .tc := ⟨.hbm, 747, rfl⟩
abbrev main_cst_98 : Ref sig .tc := ⟨.hbm, 748, rfl⟩
abbrev main_v494 : Ref sig .tc := ⟨.hbm, 749, rfl⟩
abbrev main_cst_99 : Ref sig .tc := ⟨.hbm, 750, rfl⟩
abbrev main_v495 : Ref sig .tc := ⟨.hbm, 751, rfl⟩
abbrev main_v496 : Ref sig .tc := ⟨.hbm, 752, rfl⟩
abbrev main_v497 : Ref sig .tc := ⟨.hbm, 753, rfl⟩
abbrev main_v498 : Ref sig .tc := ⟨.hbm, 754, rfl⟩
abbrev main_v499 : Ref sig .tc := ⟨.hbm, 755, rfl⟩
abbrev main_v500 : Ref sig .tc := ⟨.hbm, 756, rfl⟩
abbrev main_cst_100 : Ref sig .tc := ⟨.hbm, 757, rfl⟩
abbrev main_v501 : Ref sig .tc := ⟨.hbm, 758, rfl⟩
abbrev main_v502 : Ref sig .tc := ⟨.hbm, 759, rfl⟩
abbrev main_v503 : Ref sig .tc := ⟨.hbm, 760, rfl⟩
abbrev main_v504 : Ref sig .tc := ⟨.hbm, 761, rfl⟩
abbrev main_v505 : Ref sig .tc := ⟨.hbm, 762, rfl⟩
abbrev main_v506 : Ref sig .tc := ⟨.hbm, 763, rfl⟩
abbrev main_call21_cst : Ref sig .tc := ⟨.hbm, 764, rfl⟩
abbrev main_call21_v0 : Ref sig .tc := ⟨.hbm, 765, rfl⟩
abbrev main_call21_v1 : Ref sig .tc := ⟨.hbm, 766, rfl⟩
abbrev main_call21_cst_0 : Ref sig .tc := ⟨.hbm, 767, rfl⟩
abbrev main_call21_v2 : Ref sig .tc := ⟨.hbm, 768, rfl⟩
abbrev main_call21_v3 : Ref sig .tc := ⟨.hbm, 769, rfl⟩
abbrev main_call21_cst_1 : Ref sig .tc := ⟨.hbm, 770, rfl⟩
abbrev main_call21_call0_v0 : Ref sig .tc := ⟨.hbm, 771, rfl⟩
abbrev main_call21_call0_v1 : Ref sig .tc := ⟨.hbm, 772, rfl⟩
abbrev main_call21_v4 : Ref sig .tc := ⟨.hbm, 773, rfl⟩
abbrev main_call21_v5 : Ref sig .tc := ⟨.hbm, 774, rfl⟩
abbrev main_call21_cst_2 : Ref sig .tc := ⟨.hbm, 775, rfl⟩
abbrev main_call21_v6 : Ref sig .tc := ⟨.hbm, 776, rfl⟩
abbrev main_call21_v7 : Ref sig .tc := ⟨.hbm, 777, rfl⟩
abbrev main_v507 : Ref sig .tc := ⟨.hbm, 778, rfl⟩
abbrev main_v508 : Ref sig .tc := ⟨.hbm, 779, rfl⟩
abbrev main_v509 : Ref sig .tc := ⟨.hbm, 780, rfl⟩
abbrev main_v510 : Ref sig .tc := ⟨.hbm, 781, rfl⟩
abbrev main_v511 : Ref sig .tc := ⟨.hbm, 782, rfl⟩
abbrev main_v512 : Ref sig .tc := ⟨.hbm, 783, rfl⟩
abbrev main_v513 : Ref sig .tc := ⟨.hbm, 784, rfl⟩
abbrev main_v514 : Ref sig .tc := ⟨.hbm, 785, rfl⟩
abbrev main_v515 : Ref sig .tc := ⟨.hbm, 786, rfl⟩
abbrev main_v516 : Ref sig .tc := ⟨.hbm, 787, rfl⟩
abbrev main_v517 : Ref sig .tc := ⟨.hbm, 788, rfl⟩
abbrev main_cst_101 : Ref sig .tc := ⟨.hbm, 789, rfl⟩
abbrev main_call22_cst : Ref sig .tc := ⟨.hbm, 790, rfl⟩
abbrev main_call22_v0 : Ref sig .tc := ⟨.hbm, 791, rfl⟩
abbrev main_call22_v1 : Ref sig .tc := ⟨.hbm, 792, rfl⟩
abbrev main_call22_v2 : Ref sig .tc := ⟨.hbm, 793, rfl⟩
abbrev main_call22_v3 : Ref sig .tc := ⟨.hbm, 794, rfl⟩
abbrev main_call22_v4 : Ref sig .tc := ⟨.hbm, 795, rfl⟩
abbrev main_v518 : Ref sig .tc := ⟨.hbm, 796, rfl⟩
abbrev main_cst_102 : Ref sig .tc := ⟨.hbm, 797, rfl⟩
abbrev main_v519 : Ref sig .tc := ⟨.hbm, 798, rfl⟩
abbrev main_v520 : Ref sig .tc := ⟨.hbm, 799, rfl⟩
abbrev main_v521 : Ref sig .tc := ⟨.hbm, 800, rfl⟩
abbrev main_cst_103 : Ref sig .tc := ⟨.hbm, 801, rfl⟩
abbrev main_v522 : Ref sig .tc := ⟨.hbm, 802, rfl⟩
abbrev main_cst_104 : Ref sig .tc := ⟨.hbm, 803, rfl⟩
abbrev main_v523 : Ref sig .tc := ⟨.hbm, 804, rfl⟩
abbrev main_v524 : Ref sig .tc := ⟨.hbm, 805, rfl⟩
abbrev main_v525 : Ref sig .tc := ⟨.hbm, 806, rfl⟩
abbrev main_v526 : Ref sig .tc := ⟨.hbm, 807, rfl⟩
abbrev main_cst_105 : Ref sig .tc := ⟨.hbm, 808, rfl⟩
abbrev main_v527 : Ref sig .tc := ⟨.hbm, 809, rfl⟩
abbrev main_v528 : Ref sig .tc := ⟨.hbm, 810, rfl⟩
abbrev main_v529 : Ref sig .tc := ⟨.hbm, 811, rfl⟩
abbrev main_cst_106 : Ref sig .tc := ⟨.hbm, 812, rfl⟩
abbrev main_v530 : Ref sig .tc := ⟨.hbm, 813, rfl⟩
abbrev main_v531 : Ref sig .tc := ⟨.hbm, 814, rfl⟩
abbrev main_v532 : Ref sig .tc := ⟨.hbm, 815, rfl⟩
abbrev main_v533 : Ref sig .tc := ⟨.hbm, 816, rfl⟩
abbrev main_cst_107 : Ref sig .tc := ⟨.hbm, 817, rfl⟩
abbrev main_call23_v0 : Ref sig .tc := ⟨.hbm, 818, rfl⟩
abbrev main_call23_v1 : Ref sig .tc := ⟨.hbm, 819, rfl⟩
abbrev main_v534 : Ref sig .tc := ⟨.hbm, 820, rfl⟩
abbrev main_cst_108 : Ref sig .tc := ⟨.hbm, 821, rfl⟩
abbrev main_v535 : Ref sig .tc := ⟨.hbm, 822, rfl⟩
abbrev main_cst_109 : Ref sig .tc := ⟨.hbm, 823, rfl⟩
abbrev main_v536 : Ref sig .tc := ⟨.hbm, 824, rfl⟩
abbrev main_v537 : Ref sig .tc := ⟨.hbm, 825, rfl⟩
abbrev main_v538 : Ref sig .tc := ⟨.hbm, 826, rfl⟩
abbrev main_v539 : Ref sig .tc := ⟨.hbm, 827, rfl⟩
abbrev main_v540 : Ref sig .tc := ⟨.hbm, 828, rfl⟩
abbrev main_v541 : Ref sig .tc := ⟨.hbm, 829, rfl⟩
abbrev main_cst_110 : Ref sig .tc := ⟨.hbm, 830, rfl⟩
abbrev main_v542 : Ref sig .tc := ⟨.hbm, 831, rfl⟩
abbrev main_v543 : Ref sig .tc := ⟨.hbm, 832, rfl⟩
abbrev main_v544 : Ref sig .tc := ⟨.hbm, 833, rfl⟩
abbrev main_v545 : Ref sig .tc := ⟨.hbm, 834, rfl⟩
abbrev main_v546 : Ref sig .tc := ⟨.hbm, 835, rfl⟩
abbrev main_v547 : Ref sig .tc := ⟨.hbm, 836, rfl⟩
abbrev main_call24_cst : Ref sig .tc := ⟨.hbm, 837, rfl⟩
abbrev main_call24_v0 : Ref sig .tc := ⟨.hbm, 838, rfl⟩
abbrev main_call24_v1 : Ref sig .tc := ⟨.hbm, 839, rfl⟩
abbrev main_call24_cst_0 : Ref sig .tc := ⟨.hbm, 840, rfl⟩
abbrev main_call24_v2 : Ref sig .tc := ⟨.hbm, 841, rfl⟩
abbrev main_call24_v3 : Ref sig .tc := ⟨.hbm, 842, rfl⟩
abbrev main_call24_cst_1 : Ref sig .tc := ⟨.hbm, 843, rfl⟩
abbrev main_call24_call0_v0 : Ref sig .tc := ⟨.hbm, 844, rfl⟩
abbrev main_call24_call0_v1 : Ref sig .tc := ⟨.hbm, 845, rfl⟩
abbrev main_call24_v4 : Ref sig .tc := ⟨.hbm, 846, rfl⟩
abbrev main_call24_v5 : Ref sig .tc := ⟨.hbm, 847, rfl⟩
abbrev main_call24_cst_2 : Ref sig .tc := ⟨.hbm, 848, rfl⟩
abbrev main_call24_v6 : Ref sig .tc := ⟨.hbm, 849, rfl⟩
abbrev main_call24_v7 : Ref sig .tc := ⟨.hbm, 850, rfl⟩
abbrev main_v548 : Ref sig .tc := ⟨.hbm, 851, rfl⟩
abbrev main_v549 : Ref sig .tc := ⟨.hbm, 852, rfl⟩
abbrev main_v550 : Ref sig .tc := ⟨.hbm, 853, rfl⟩
abbrev main_v551 : Ref sig .tc := ⟨.hbm, 854, rfl⟩
abbrev main_v552 : Ref sig .tc := ⟨.hbm, 855, rfl⟩
abbrev main_v553 : Ref sig .tc := ⟨.hbm, 856, rfl⟩
abbrev main_v554 : Ref sig .tc := ⟨.hbm, 857, rfl⟩
abbrev main_call25_cst : Ref sig .tc := ⟨.hbm, 858, rfl⟩
abbrev main_call25_v0 : Ref sig .tc := ⟨.hbm, 859, rfl⟩
abbrev main_call25_v1 : Ref sig .tc := ⟨.hbm, 860, rfl⟩
abbrev main_call25_cst_0 : Ref sig .tc := ⟨.hbm, 861, rfl⟩
abbrev main_call25_v2 : Ref sig .tc := ⟨.hbm, 862, rfl⟩
abbrev main_call25_v3 : Ref sig .tc := ⟨.hbm, 863, rfl⟩
abbrev main_call25_cst_1 : Ref sig .tc := ⟨.hbm, 864, rfl⟩
abbrev main_call25_call0_v0 : Ref sig .tc := ⟨.hbm, 865, rfl⟩
abbrev main_call25_call0_v1 : Ref sig .tc := ⟨.hbm, 866, rfl⟩
abbrev main_call25_v4 : Ref sig .tc := ⟨.hbm, 867, rfl⟩
abbrev main_call25_v5 : Ref sig .tc := ⟨.hbm, 868, rfl⟩
abbrev main_call25_cst_2 : Ref sig .tc := ⟨.hbm, 869, rfl⟩
abbrev main_call25_v6 : Ref sig .tc := ⟨.hbm, 870, rfl⟩
abbrev main_call25_v7 : Ref sig .tc := ⟨.hbm, 871, rfl⟩
abbrev main_v555 : Ref sig .tc := ⟨.hbm, 872, rfl⟩
abbrev main_v556 : Ref sig .tc := ⟨.hbm, 873, rfl⟩
abbrev main_v557 : Ref sig .tc := ⟨.hbm, 874, rfl⟩
abbrev main_v558 : Ref sig .tc := ⟨.hbm, 875, rfl⟩
abbrev main_v559 : Ref sig .tc := ⟨.hbm, 876, rfl⟩
abbrev main_v560 : Ref sig .tc := ⟨.hbm, 877, rfl⟩
abbrev main_v561 : Ref sig .tc := ⟨.hbm, 878, rfl⟩
abbrev main_v562 : Ref sig .tc := ⟨.hbm, 879, rfl⟩
abbrev main_v563 : Ref sig .tc := ⟨.hbm, 880, rfl⟩
abbrev main_v564 : Ref sig .tc := ⟨.hbm, 881, rfl⟩
abbrev main_cst_111 : Ref sig .tc := ⟨.hbm, 882, rfl⟩
abbrev main_v565 : Ref sig .tc := ⟨.hbm, 883, rfl⟩
abbrev main_v566 : Ref sig .tc := ⟨.hbm, 884, rfl⟩
abbrev main_cst_112 : Ref sig .tc := ⟨.hbm, 885, rfl⟩
abbrev main_v567 : Ref sig .tc := ⟨.hbm, 886, rfl⟩
abbrev main_v568 : Ref sig .tc := ⟨.hbm, 887, rfl⟩
abbrev main_v569 : Ref sig .tc := ⟨.hbm, 888, rfl⟩
abbrev main_v570 : Ref sig .tc := ⟨.hbm, 889, rfl⟩
abbrev main_v571 : Ref sig .tc := ⟨.hbm, 890, rfl⟩
abbrev main_v572 : Ref sig .tc := ⟨.hbm, 891, rfl⟩
abbrev main_v573 : Ref sig .tc := ⟨.hbm, 892, rfl⟩
abbrev main_v574 : Ref sig .tc := ⟨.hbm, 893, rfl⟩
abbrev main_v575 : Ref sig .tc := ⟨.hbm, 894, rfl⟩
abbrev main_v576 : Ref sig .tc := ⟨.hbm, 895, rfl⟩
abbrev main_v577 : Ref sig .tc := ⟨.hbm, 896, rfl⟩
abbrev main_cst_113 : Ref sig .tc := ⟨.hbm, 897, rfl⟩
abbrev main_v578 : Ref sig .tc := ⟨.hbm, 898, rfl⟩
abbrev main_v579 : Ref sig .tc := ⟨.hbm, 899, rfl⟩
abbrev main_cst_114 : Ref sig .tc := ⟨.hbm, 900, rfl⟩
abbrev main_v580 : Ref sig .tc := ⟨.hbm, 901, rfl⟩
abbrev main_v581 : Ref sig .tc := ⟨.hbm, 902, rfl⟩
abbrev main_v582 : Ref sig .tc := ⟨.hbm, 903, rfl⟩
abbrev main_v583 : Ref sig .tc := ⟨.hbm, 904, rfl⟩
abbrev main_v584 : Ref sig .tc := ⟨.hbm, 905, rfl⟩
abbrev main_v585 : Ref sig .tc := ⟨.hbm, 906, rfl⟩
abbrev main_v586 : Ref sig .tc := ⟨.hbm, 907, rfl⟩
abbrev main_v587 : Ref sig .tc := ⟨.hbm, 908, rfl⟩
abbrev main_v588 : Ref sig .tc := ⟨.hbm, 909, rfl⟩
abbrev main_v589 : Ref sig .tc := ⟨.hbm, 910, rfl⟩
abbrev main_v590 : Ref sig .tc := ⟨.hbm, 911, rfl⟩
abbrev main_cst_115 : Ref sig .tc := ⟨.hbm, 912, rfl⟩
abbrev main_v591 : Ref sig .tc := ⟨.hbm, 913, rfl⟩
abbrev main_v592 : Ref sig .tc := ⟨.hbm, 914, rfl⟩
abbrev main_v593 : Ref sig .tc := ⟨.hbm, 915, rfl⟩
abbrev main_v594 : Ref sig .tc := ⟨.hbm, 916, rfl⟩
abbrev main_v595 : Ref sig .tc := ⟨.hbm, 917, rfl⟩
abbrev main_v596 : Ref sig .tc := ⟨.hbm, 918, rfl⟩
abbrev main_v597 : Ref sig .tc := ⟨.hbm, 919, rfl⟩
abbrev main_v598 : Ref sig .tc := ⟨.hbm, 920, rfl⟩
abbrev main_v599 : Ref sig .tc := ⟨.hbm, 921, rfl⟩
abbrev main_v600 : Ref sig .tc := ⟨.hbm, 922, rfl⟩
abbrev main_v601 : Ref sig .tc := ⟨.hbm, 923, rfl⟩
abbrev main_v602 : Ref sig .tc := ⟨.hbm, 924, rfl⟩
abbrev main_v603 : Ref sig .tc := ⟨.hbm, 925, rfl⟩
abbrev main_v604 : Ref sig .tc := ⟨.hbm, 926, rfl⟩
abbrev main_cst_116 : Ref sig .tc := ⟨.hbm, 927, rfl⟩
abbrev main_v605 : Ref sig .tc := ⟨.hbm, 928, rfl⟩
abbrev main_v606 : Ref sig .tc := ⟨.hbm, 929, rfl⟩
abbrev main_cst_117 : Ref sig .tc := ⟨.hbm, 930, rfl⟩
abbrev main_v607 : Ref sig .tc := ⟨.hbm, 931, rfl⟩
abbrev main_v608 : Ref sig .tc := ⟨.hbm, 932, rfl⟩
abbrev main_v609 : Ref sig .tc := ⟨.hbm, 933, rfl⟩
abbrev main_v610 : Ref sig .tc := ⟨.hbm, 934, rfl⟩
abbrev main_v611 : Ref sig .tc := ⟨.hbm, 935, rfl⟩
abbrev main_v612 : Ref sig .tc := ⟨.hbm, 936, rfl⟩
abbrev main_v613 : Ref sig .tc := ⟨.hbm, 937, rfl⟩
abbrev main_v614 : Ref sig .tc := ⟨.hbm, 938, rfl⟩
abbrev main_v615 : Ref sig .tc := ⟨.hbm, 939, rfl⟩
abbrev main_v616 : Ref sig .tc := ⟨.hbm, 940, rfl⟩
abbrev main_v617 : Ref sig .tc := ⟨.hbm, 941, rfl⟩
abbrev main_cst_118 : Ref sig .tc := ⟨.hbm, 942, rfl⟩
abbrev main_v618 : Ref sig .tc := ⟨.hbm, 943, rfl⟩
abbrev main_v619 : Ref sig .tc := ⟨.hbm, 944, rfl⟩
abbrev main_cst_119 : Ref sig .tc := ⟨.hbm, 945, rfl⟩
abbrev main_v620 : Ref sig .tc := ⟨.hbm, 946, rfl⟩
abbrev main_v621 : Ref sig .tc := ⟨.hbm, 947, rfl⟩
abbrev main_v622 : Ref sig .tc := ⟨.hbm, 948, rfl⟩
abbrev main_v623 : Ref sig .tc := ⟨.hbm, 949, rfl⟩
abbrev main_v624 : Ref sig .tc := ⟨.hbm, 950, rfl⟩
abbrev main_v625 : Ref sig .tc := ⟨.hbm, 951, rfl⟩
abbrev main_v626 : Ref sig .tc := ⟨.hbm, 952, rfl⟩
abbrev main_v627 : Ref sig .tc := ⟨.hbm, 953, rfl⟩
abbrev main_v628 : Ref sig .tc := ⟨.hbm, 954, rfl⟩
abbrev main_v629 : Ref sig .tc := ⟨.hbm, 955, rfl⟩
abbrev main_v630 : Ref sig .tc := ⟨.hbm, 956, rfl⟩
abbrev main_cst_120 : Ref sig .tc := ⟨.hbm, 957, rfl⟩
abbrev main_v631 : Ref sig .tc := ⟨.hbm, 958, rfl⟩
abbrev main_v632 : Ref sig .tc := ⟨.hbm, 959, rfl⟩
abbrev main_v633 : Ref sig .tc := ⟨.hbm, 960, rfl⟩
abbrev main_v634 : Ref sig .tc := ⟨.hbm, 961, rfl⟩
abbrev main_v635 : Ref sig .tc := ⟨.hbm, 962, rfl⟩
abbrev main_v636 : Ref sig .tc := ⟨.hbm, 963, rfl⟩
abbrev main_v637 : Ref sig .tc := ⟨.hbm, 964, rfl⟩
abbrev main_v638 : Ref sig .tc := ⟨.hbm, 965, rfl⟩
abbrev main_v639 : Ref sig .tc := ⟨.hbm, 966, rfl⟩
abbrev main_v640 : Ref sig .tc := ⟨.hbm, 967, rfl⟩
abbrev main_v641 : Ref sig .tc := ⟨.hbm, 968, rfl⟩
abbrev main_v642 : Ref sig .tc := ⟨.hbm, 969, rfl⟩
abbrev main_v643 : Ref sig .tc := ⟨.hbm, 970, rfl⟩
abbrev main_v644 : Ref sig .tc := ⟨.hbm, 971, rfl⟩
abbrev main_cst_121 : Ref sig .tc := ⟨.hbm, 972, rfl⟩
abbrev main_v645 : Ref sig .tc := ⟨.hbm, 973, rfl⟩
abbrev main_v646 : Ref sig .tc := ⟨.hbm, 974, rfl⟩
abbrev main_cst_122 : Ref sig .tc := ⟨.hbm, 975, rfl⟩
abbrev main_v647 : Ref sig .tc := ⟨.hbm, 976, rfl⟩
abbrev main_v648 : Ref sig .tc := ⟨.hbm, 977, rfl⟩
abbrev main_v649 : Ref sig .tc := ⟨.hbm, 978, rfl⟩
abbrev main_v650 : Ref sig .tc := ⟨.hbm, 979, rfl⟩
abbrev main_v651 : Ref sig .tc := ⟨.hbm, 980, rfl⟩
abbrev main_v652 : Ref sig .tc := ⟨.hbm, 981, rfl⟩
abbrev main_v653 : Ref sig .tc := ⟨.hbm, 982, rfl⟩
abbrev main_v654 : Ref sig .tc := ⟨.hbm, 983, rfl⟩
abbrev main_v655 : Ref sig .tc := ⟨.hbm, 984, rfl⟩
abbrev main_v656 : Ref sig .tc := ⟨.hbm, 985, rfl⟩
abbrev main_v657 : Ref sig .tc := ⟨.hbm, 986, rfl⟩
abbrev main_cst_123 : Ref sig .tc := ⟨.hbm, 987, rfl⟩
abbrev main_v658 : Ref sig .tc := ⟨.hbm, 988, rfl⟩
abbrev main_v659 : Ref sig .tc := ⟨.hbm, 989, rfl⟩
abbrev main_cst_124 : Ref sig .tc := ⟨.hbm, 990, rfl⟩
abbrev main_v660 : Ref sig .tc := ⟨.hbm, 991, rfl⟩
abbrev main_v661 : Ref sig .tc := ⟨.hbm, 992, rfl⟩
abbrev main_v662 : Ref sig .tc := ⟨.hbm, 993, rfl⟩
abbrev main_v663 : Ref sig .tc := ⟨.hbm, 994, rfl⟩
abbrev main_v664 : Ref sig .tc := ⟨.hbm, 995, rfl⟩
abbrev main_v665 : Ref sig .tc := ⟨.hbm, 996, rfl⟩
abbrev main_v666 : Ref sig .tc := ⟨.hbm, 997, rfl⟩
abbrev main_v667 : Ref sig .tc := ⟨.hbm, 998, rfl⟩
abbrev main_v668 : Ref sig .tc := ⟨.hbm, 999, rfl⟩
abbrev main_v669 : Ref sig .tc := ⟨.hbm, 1000, rfl⟩
abbrev main_v670 : Ref sig .tc := ⟨.hbm, 1001, rfl⟩
abbrev main_cst_125 : Ref sig .tc := ⟨.hbm, 1002, rfl⟩
abbrev main_v671 : Ref sig .tc := ⟨.hbm, 1003, rfl⟩
abbrev main_v672 : Ref sig .tc := ⟨.hbm, 1004, rfl⟩
abbrev main_v673 : Ref sig .tc := ⟨.hbm, 1005, rfl⟩
abbrev main_v674 : Ref sig .tc := ⟨.hbm, 1006, rfl⟩
abbrev main_v675 : Ref sig .tc := ⟨.hbm, 1007, rfl⟩
abbrev main_v676 : Ref sig .tc := ⟨.hbm, 1008, rfl⟩
abbrev main_cst_126 : Ref sig .tc := ⟨.hbm, 1009, rfl⟩
abbrev main_v677 : Ref sig .tc := ⟨.hbm, 1010, rfl⟩
abbrev main_v678 : Ref sig .tc := ⟨.hbm, 1011, rfl⟩
abbrev main_v679 : Ref sig .tc := ⟨.hbm, 1012, rfl⟩
abbrev main_v680 : Ref sig .tc := ⟨.hbm, 1013, rfl⟩
abbrev main_v681 : Ref sig .tc := ⟨.hbm, 1014, rfl⟩
abbrev main_v682 : Ref sig .tc := ⟨.hbm, 1015, rfl⟩
abbrev main_v683 : Ref sig .tc := ⟨.hbm, 1016, rfl⟩
abbrev main_v684 : Ref sig .tc := ⟨.hbm, 1017, rfl⟩
abbrev main_v685 : Ref sig .tc := ⟨.hbm, 1018, rfl⟩
abbrev main_v686 : Ref sig .tc := ⟨.hbm, 1019, rfl⟩
abbrev main_v687 : Ref sig .tc := ⟨.hbm, 1020, rfl⟩
abbrev main_v688 : Ref sig .tc := ⟨.hbm, 1021, rfl⟩
abbrev main_c_127 : Ref sig .tc := ⟨.hbm, 1022, rfl⟩
abbrev main_v689 : Ref sig .tc := ⟨.hbm, 1023, rfl⟩
abbrev main_v690 : Ref sig .tc := ⟨.hbm, 1024, rfl⟩
abbrev main_v691 : Ref sig .tc := ⟨.hbm, 1025, rfl⟩
abbrev main_v692 : Ref sig .tc := ⟨.hbm, 1026, rfl⟩
abbrev main_cst_128 : Ref sig .tc := ⟨.hbm, 1027, rfl⟩
abbrev main_v693 : Ref sig .tc := ⟨.hbm, 1028, rfl⟩
abbrev main_v694 : Ref sig .tc := ⟨.hbm, 1029, rfl⟩
abbrev main_cst_129 : Ref sig .tc := ⟨.hbm, 1030, rfl⟩
abbrev main_v695 : Ref sig .tc := ⟨.hbm, 1031, rfl⟩
abbrev main_v696 : Ref sig .tc := ⟨.hbm, 1032, rfl⟩
abbrev main_cst_130 : Ref sig .tc := ⟨.hbm, 1033, rfl⟩
abbrev main_call26_v0 : Ref sig .tc := ⟨.hbm, 1034, rfl⟩
abbrev main_call26_v1 : Ref sig .tc := ⟨.hbm, 1035, rfl⟩
abbrev main_v697 : Ref sig .tc := ⟨.hbm, 1036, rfl⟩
abbrev main_v698 : Ref sig .tc := ⟨.hbm, 1037, rfl⟩
abbrev main_v699 : Ref sig .tc := ⟨.hbm, 1038, rfl⟩
abbrev main_cst_131 : Ref sig .tc := ⟨.hbm, 1039, rfl⟩
abbrev main_v700 : Ref sig .tc := ⟨.hbm, 1040, rfl⟩
abbrev main_v701 : Ref sig .tc := ⟨.hbm, 1041, rfl⟩
abbrev main_v702 : Ref sig .tc := ⟨.hbm, 1042, rfl⟩
abbrev main_v703 : Ref sig .tc := ⟨.hbm, 1043, rfl⟩
abbrev main_v704 : Ref sig .tc := ⟨.hbm, 1044, rfl⟩
abbrev main_cst_132 : Ref sig .tc := ⟨.hbm, 1045, rfl⟩
abbrev main_v705 : Ref sig .tc := ⟨.hbm, 1046, rfl⟩
abbrev main_v706 : Ref sig .tc := ⟨.hbm, 1047, rfl⟩
abbrev main_v707 : Ref sig .tc := ⟨.hbm, 1048, rfl⟩
abbrev main_v708 : Ref sig .tc := ⟨.hbm, 1049, rfl⟩
abbrev main_cst_133 : Ref sig .tc := ⟨.hbm, 1050, rfl⟩
abbrev main_v709 : Ref sig .tc := ⟨.hbm, 1051, rfl⟩
abbrev main_v710 : Ref sig .tc := ⟨.hbm, 1052, rfl⟩
abbrev main_v711 : Ref sig .tc := ⟨.hbm, 1053, rfl⟩
abbrev main_v712 : Ref sig .tc := ⟨.hbm, 1054, rfl⟩
abbrev main_v713 : Ref sig .tc := ⟨.hbm, 1055, rfl⟩
abbrev main_v714 : Ref sig .tc := ⟨.hbm, 1056, rfl⟩
abbrev main_v715 : Ref sig .tc := ⟨.hbm, 1057, rfl⟩
abbrev main_v716 : Ref sig .tc := ⟨.hbm, 1058, rfl⟩
abbrev main_v717 : Ref sig .tc := ⟨.hbm, 1059, rfl⟩
abbrev main_v718 : Ref sig .tc := ⟨.hbm, 1060, rfl⟩
abbrev main_v719 : Ref sig .tc := ⟨.hbm, 1061, rfl⟩
abbrev main_v720 : Ref sig .tc := ⟨.hbm, 1062, rfl⟩
abbrev main_v721 : Ref sig .tc := ⟨.hbm, 1063, rfl⟩
abbrev main_v722 : Ref sig .tc := ⟨.hbm, 1064, rfl⟩
abbrev main_v723 : Ref sig .tc := ⟨.hbm, 1065, rfl⟩
abbrev main_v724 : Ref sig .tc := ⟨.hbm, 1066, rfl⟩
abbrev main_cst_134 : Ref sig .tc := ⟨.hbm, 1067, rfl⟩
abbrev main_call27_cst : Ref sig .tc := ⟨.hbm, 1068, rfl⟩
abbrev main_call27_v0 : Ref sig .tc := ⟨.hbm, 1069, rfl⟩
abbrev main_call27_v1 : Ref sig .tc := ⟨.hbm, 1070, rfl⟩
abbrev main_call27_v2 : Ref sig .tc := ⟨.hbm, 1071, rfl⟩
abbrev main_call27_v3 : Ref sig .tc := ⟨.hbm, 1072, rfl⟩
abbrev main_call27_v4 : Ref sig .tc := ⟨.hbm, 1073, rfl⟩
abbrev main_v725 : Ref sig .tc := ⟨.hbm, 1074, rfl⟩
abbrev main_cst_135 : Ref sig .tc := ⟨.hbm, 1075, rfl⟩
abbrev main_v726 : Ref sig .tc := ⟨.hbm, 1076, rfl⟩
abbrev main_v727 : Ref sig .tc := ⟨.hbm, 1077, rfl⟩
abbrev main_v728 : Ref sig .tc := ⟨.hbm, 1078, rfl⟩
abbrev main_cst_136 : Ref sig .tc := ⟨.hbm, 1079, rfl⟩
abbrev main_v729 : Ref sig .tc := ⟨.hbm, 1080, rfl⟩
abbrev main_cst_137 : Ref sig .tc := ⟨.hbm, 1081, rfl⟩
abbrev main_v730 : Ref sig .tc := ⟨.hbm, 1082, rfl⟩
abbrev main_v731 : Ref sig .tc := ⟨.hbm, 1083, rfl⟩
abbrev main_v732 : Ref sig .tc := ⟨.hbm, 1084, rfl⟩
abbrev main_v733 : Ref sig .tc := ⟨.hbm, 1085, rfl⟩
abbrev main_cst_138 : Ref sig .tc := ⟨.hbm, 1086, rfl⟩
abbrev main_v734 : Ref sig .tc := ⟨.hbm, 1087, rfl⟩
abbrev main_v735 : Ref sig .tc := ⟨.hbm, 1088, rfl⟩
abbrev main_v736 : Ref sig .tc := ⟨.hbm, 1089, rfl⟩
abbrev main_cst_139 : Ref sig .tc := ⟨.hbm, 1090, rfl⟩
abbrev main_v737 : Ref sig .tc := ⟨.hbm, 1091, rfl⟩
abbrev main_v738 : Ref sig .tc := ⟨.hbm, 1092, rfl⟩
abbrev main_v739 : Ref sig .tc := ⟨.hbm, 1093, rfl⟩
abbrev main_v740 : Ref sig .tc := ⟨.hbm, 1094, rfl⟩
abbrev main_cst_140 : Ref sig .tc := ⟨.hbm, 1095, rfl⟩
abbrev main_call28_v0 : Ref sig .tc := ⟨.hbm, 1096, rfl⟩
abbrev main_call28_v1 : Ref sig .tc := ⟨.hbm, 1097, rfl⟩
abbrev main_v741 : Ref sig .tc := ⟨.hbm, 1098, rfl⟩
abbrev main_cst_141 : Ref sig .tc := ⟨.hbm, 1099, rfl⟩
abbrev main_v742 : Ref sig .tc := ⟨.hbm, 1100, rfl⟩
abbrev main_cst_142 : Ref sig .tc := ⟨.hbm, 1101, rfl⟩
abbrev main_v743 : Ref sig .tc := ⟨.hbm, 1102, rfl⟩
abbrev main_v744 : Ref sig .tc := ⟨.hbm, 1103, rfl⟩
abbrev main_v745 : Ref sig .tc := ⟨.hbm, 1104, rfl⟩
abbrev main_v746 : Ref sig .tc := ⟨.hbm, 1105, rfl⟩
abbrev main_v747 : Ref sig .tc := ⟨.hbm, 1106, rfl⟩
abbrev main_v748 : Ref sig .tc := ⟨.hbm, 1107, rfl⟩
abbrev main_cst_143 : Ref sig .tc := ⟨.hbm, 1108, rfl⟩
abbrev main_v749 : Ref sig .tc := ⟨.hbm, 1109, rfl⟩
abbrev main_v750 : Ref sig .tc := ⟨.hbm, 1110, rfl⟩
abbrev main_v751 : Ref sig .tc := ⟨.hbm, 1111, rfl⟩
abbrev main_v752 : Ref sig .tc := ⟨.hbm, 1112, rfl⟩
abbrev main_v753 : Ref sig .tc := ⟨.hbm, 1113, rfl⟩
abbrev main_v754 : Ref sig .tc := ⟨.hbm, 1114, rfl⟩
abbrev main_call29_cst : Ref sig .tc := ⟨.hbm, 1115, rfl⟩
abbrev main_call29_v0 : Ref sig .tc := ⟨.hbm, 1116, rfl⟩
abbrev main_call29_v1 : Ref sig .tc := ⟨.hbm, 1117, rfl⟩
abbrev main_call29_cst_0 : Ref sig .tc := ⟨.hbm, 1118, rfl⟩
abbrev main_call29_v2 : Ref sig .tc := ⟨.hbm, 1119, rfl⟩
abbrev main_call29_v3 : Ref sig .tc := ⟨.hbm, 1120, rfl⟩
abbrev main_call29_cst_1 : Ref sig .tc := ⟨.hbm, 1121, rfl⟩
abbrev main_call29_call0_v0 : Ref sig .tc := ⟨.hbm, 1122, rfl⟩
abbrev main_call29_call0_v1 : Ref sig .tc := ⟨.hbm, 1123, rfl⟩
abbrev main_call29_v4 : Ref sig .tc := ⟨.hbm, 1124, rfl⟩
abbrev main_call29_v5 : Ref sig .tc := ⟨.hbm, 1125, rfl⟩
abbrev main_call29_cst_2 : Ref sig .tc := ⟨.hbm, 1126, rfl⟩
abbrev main_call29_v6 : Ref sig .tc := ⟨.hbm, 1127, rfl⟩
abbrev main_call29_v7 : Ref sig .tc := ⟨.hbm, 1128, rfl⟩
abbrev main_v755 : Ref sig .tc := ⟨.hbm, 1129, rfl⟩
abbrev main_v756 : Ref sig .tc := ⟨.hbm, 1130, rfl⟩
abbrev main_v757 : Ref sig .tc := ⟨.hbm, 1131, rfl⟩
abbrev main_v758 : Ref sig .tc := ⟨.hbm, 1132, rfl⟩
abbrev main_v759 : Ref sig .tc := ⟨.hbm, 1133, rfl⟩
abbrev main_v760 : Ref sig .tc := ⟨.hbm, 1134, rfl⟩
abbrev main_v761 : Ref sig .tc := ⟨.hbm, 1135, rfl⟩
abbrev main_v762 : Ref sig .tc := ⟨.hbm, 1136, rfl⟩
abbrev main_v763 : Ref sig .tc := ⟨.hbm, 1137, rfl⟩
abbrev main_v764 : Ref sig .tc := ⟨.hbm, 1138, rfl⟩
abbrev main_v765 : Ref sig .tc := ⟨.hbm, 1139, rfl⟩
abbrev main_cst_144 : Ref sig .tc := ⟨.hbm, 1140, rfl⟩
abbrev main_call30_cst : Ref sig .tc := ⟨.hbm, 1141, rfl⟩
abbrev main_call30_v0 : Ref sig .tc := ⟨.hbm, 1142, rfl⟩
abbrev main_call30_v1 : Ref sig .tc := ⟨.hbm, 1143, rfl⟩
abbrev main_call30_v2 : Ref sig .tc := ⟨.hbm, 1144, rfl⟩
abbrev main_call30_v3 : Ref sig .tc := ⟨.hbm, 1145, rfl⟩
abbrev main_call30_v4 : Ref sig .tc := ⟨.hbm, 1146, rfl⟩
abbrev main_v766 : Ref sig .tc := ⟨.hbm, 1147, rfl⟩
abbrev main_cst_145 : Ref sig .tc := ⟨.hbm, 1148, rfl⟩
abbrev main_v767 : Ref sig .tc := ⟨.hbm, 1149, rfl⟩
abbrev main_v768 : Ref sig .tc := ⟨.hbm, 1150, rfl⟩
abbrev main_v769 : Ref sig .tc := ⟨.hbm, 1151, rfl⟩
abbrev main_cst_146 : Ref sig .tc := ⟨.hbm, 1152, rfl⟩
abbrev main_v770 : Ref sig .tc := ⟨.hbm, 1153, rfl⟩
abbrev main_cst_147 : Ref sig .tc := ⟨.hbm, 1154, rfl⟩
abbrev main_v771 : Ref sig .tc := ⟨.hbm, 1155, rfl⟩
abbrev main_v772 : Ref sig .tc := ⟨.hbm, 1156, rfl⟩
abbrev main_v773 : Ref sig .tc := ⟨.hbm, 1157, rfl⟩
abbrev main_v774 : Ref sig .tc := ⟨.hbm, 1158, rfl⟩
abbrev main_cst_148 : Ref sig .tc := ⟨.hbm, 1159, rfl⟩
abbrev main_v775 : Ref sig .tc := ⟨.hbm, 1160, rfl⟩
abbrev main_v776 : Ref sig .tc := ⟨.hbm, 1161, rfl⟩
abbrev main_v777 : Ref sig .tc := ⟨.hbm, 1162, rfl⟩
abbrev main_cst_149 : Ref sig .tc := ⟨.hbm, 1163, rfl⟩
abbrev main_v778 : Ref sig .tc := ⟨.hbm, 1164, rfl⟩
abbrev main_v779 : Ref sig .tc := ⟨.hbm, 1165, rfl⟩
abbrev main_v780 : Ref sig .tc := ⟨.hbm, 1166, rfl⟩
abbrev main_v781 : Ref sig .tc := ⟨.hbm, 1167, rfl⟩
abbrev main_cst_150 : Ref sig .tc := ⟨.hbm, 1168, rfl⟩
abbrev main_call31_v0 : Ref sig .tc := ⟨.hbm, 1169, rfl⟩
abbrev main_call31_v1 : Ref sig .tc := ⟨.hbm, 1170, rfl⟩
abbrev main_v782 : Ref sig .tc := ⟨.hbm, 1171, rfl⟩
abbrev main_cst_151 : Ref sig .tc := ⟨.hbm, 1172, rfl⟩
abbrev main_v783 : Ref sig .tc := ⟨.hbm, 1173, rfl⟩
abbrev main_cst_152 : Ref sig .tc := ⟨.hbm, 1174, rfl⟩
abbrev main_v784 : Ref sig .tc := ⟨.hbm, 1175, rfl⟩
abbrev main_v785 : Ref sig .tc := ⟨.hbm, 1176, rfl⟩
abbrev main_v786 : Ref sig .tc := ⟨.hbm, 1177, rfl⟩
abbrev main_v787 : Ref sig .tc := ⟨.hbm, 1178, rfl⟩
abbrev main_v788 : Ref sig .tc := ⟨.hbm, 1179, rfl⟩
abbrev main_v789 : Ref sig .tc := ⟨.hbm, 1180, rfl⟩
abbrev main_cst_153 : Ref sig .tc := ⟨.hbm, 1181, rfl⟩
abbrev main_v790 : Ref sig .tc := ⟨.hbm, 1182, rfl⟩
abbrev main_v791 : Ref sig .tc := ⟨.hbm, 1183, rfl⟩
abbrev main_v792 : Ref sig .tc := ⟨.hbm, 1184, rfl⟩
abbrev main_v793 : Ref sig .tc := ⟨.hbm, 1185, rfl⟩
abbrev main_v794 : Ref sig .tc := ⟨.hbm, 1186, rfl⟩
abbrev main_v795 : Ref sig .tc := ⟨.hbm, 1187, rfl⟩
abbrev main_call32_cst : Ref sig .tc := ⟨.hbm, 1188, rfl⟩
abbrev main_call32_v0 : Ref sig .tc := ⟨.hbm, 1189, rfl⟩
abbrev main_call32_v1 : Ref sig .tc := ⟨.hbm, 1190, rfl⟩
abbrev main_call32_cst_0 : Ref sig .tc := ⟨.hbm, 1191, rfl⟩
abbrev main_call32_v2 : Ref sig .tc := ⟨.hbm, 1192, rfl⟩
abbrev main_call32_v3 : Ref sig .tc := ⟨.hbm, 1193, rfl⟩
abbrev main_call32_cst_1 : Ref sig .tc := ⟨.hbm, 1194, rfl⟩
abbrev main_call32_call0_v0 : Ref sig .tc := ⟨.hbm, 1195, rfl⟩
abbrev main_call32_call0_v1 : Ref sig .tc := ⟨.hbm, 1196, rfl⟩
abbrev main_call32_v4 : Ref sig .tc := ⟨.hbm, 1197, rfl⟩
abbrev main_call32_v5 : Ref sig .tc := ⟨.hbm, 1198, rfl⟩
abbrev main_call32_cst_2 : Ref sig .tc := ⟨.hbm, 1199, rfl⟩
abbrev main_call32_v6 : Ref sig .tc := ⟨.hbm, 1200, rfl⟩
abbrev main_call32_v7 : Ref sig .tc := ⟨.hbm, 1201, rfl⟩
abbrev main_v796 : Ref sig .tc := ⟨.hbm, 1202, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg2_1 : Ref sig .tc := ⟨.vmem, 21, rfl⟩
abbrev cc4_stg0_0 : Ref sig .tc := ⟨.vmem, 22, rfl⟩
abbrev cc4_stg0_1 : Ref sig .tc := ⟨.vmem, 23, rfl⟩
abbrev cc4_stg1_0 : Ref sig .tc := ⟨.vmem, 24, rfl⟩
abbrev cc4_stg2_0 : Ref sig .tc := ⟨.vmem, 25, rfl⟩
abbrev cc4_stg2_1 : Ref sig .tc := ⟨.vmem, 26, rfl⟩
abbrev cc5_stg0_0 : Ref sig .tc := ⟨.vmem, 27, rfl⟩
abbrev cc5_stg0_1 : Ref sig .tc := ⟨.vmem, 28, rfl⟩
abbrev cc5_stg1_0 : Ref sig .tc := ⟨.vmem, 29, rfl⟩
abbrev cc5_stg1_1 : Ref sig .tc := ⟨.vmem, 30, rfl⟩
abbrev cc5_stg2_0 : Ref sig .tc := ⟨.vmem, 31, rfl⟩
abbrev cc5_stg2_1 : Ref sig .tc := ⟨.vmem, 32, rfl⟩
abbrev cc6_stg0_0 : Ref sig .tc := ⟨.vmem, 33, rfl⟩
abbrev cc6_stg0_1 : Ref sig .tc := ⟨.vmem, 34, rfl⟩
abbrev cc6_stg1_0 : Ref sig .tc := ⟨.vmem, 35, rfl⟩
abbrev cc6_stg1_1 : Ref sig .tc := ⟨.vmem, 36, rfl⟩
abbrev cc6_stg2_0 : Ref sig .tc := ⟨.vmem, 37, rfl⟩
abbrev cc6_stg2_1 : Ref sig .tc := ⟨.vmem, 38, rfl⟩
abbrev cc7_stg0_0 : Ref sig .tc := ⟨.vmem, 39, rfl⟩
abbrev cc7_stg0_1 : Ref sig .tc := ⟨.vmem, 40, rfl⟩
abbrev cc7_stg1_0 : Ref sig .tc := ⟨.vmem, 41, rfl⟩
abbrev cc7_stg1_1 : Ref sig .tc := ⟨.vmem, 42, rfl⟩
abbrev cc7_stg2_0 : Ref sig .tc := ⟨.vmem, 43, rfl⟩
abbrev cc7_stg2_1 : Ref sig .tc := ⟨.vmem, 44, rfl⟩
abbrev cc8_stg0_0 : Ref sig .tc := ⟨.vmem, 45, rfl⟩
abbrev cc8_stg0_1 : Ref sig .tc := ⟨.vmem, 46, rfl⟩
abbrev cc8_stg1_0 : Ref sig .tc := ⟨.vmem, 47, rfl⟩
abbrev cc8_stg1_1 : Ref sig .tc := ⟨.vmem, 48, rfl⟩
abbrev cc8_stg2_0 : Ref sig .tc := ⟨.vmem, 49, rfl⟩
abbrev cc8_stg2_1 : Ref sig .tc := ⟨.vmem, 50, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem2_1 : DmaSem sig := 21
abbrev cc4_sem0_0 : DmaSem sig := 22
abbrev cc4_sem0_1 : DmaSem sig := 23
abbrev cc4_sem1_0 : DmaSem sig := 24
abbrev cc4_sem2_0 : DmaSem sig := 25
abbrev cc4_sem2_1 : DmaSem sig := 26
abbrev cc5_sem0_0 : DmaSem sig := 27
abbrev cc5_sem0_1 : DmaSem sig := 28
abbrev cc5_sem1_0 : DmaSem sig := 29
abbrev cc5_sem1_1 : DmaSem sig := 30
abbrev cc5_sem2_0 : DmaSem sig := 31
abbrev cc5_sem2_1 : DmaSem sig := 32
abbrev cc6_sem0_0 : DmaSem sig := 33
abbrev cc6_sem0_1 : DmaSem sig := 34
abbrev cc6_sem1_0 : DmaSem sig := 35
abbrev cc6_sem1_1 : DmaSem sig := 36
abbrev cc6_sem2_0 : DmaSem sig := 37
abbrev cc6_sem2_1 : DmaSem sig := 38
abbrev cc7_sem0_0 : DmaSem sig := 39
abbrev cc7_sem0_1 : DmaSem sig := 40
abbrev cc7_sem1_0 : DmaSem sig := 41
abbrev cc7_sem1_1 : DmaSem sig := 42
abbrev cc7_sem2_0 : DmaSem sig := 43
abbrev cc7_sem2_1 : DmaSem sig := 44
abbrev cc8_sem0_0 : DmaSem sig := 45
abbrev cc8_sem0_1 : DmaSem sig := 46
abbrev cc8_sem1_0 : DmaSem sig := 47
abbrev cc8_sem1_1 : DmaSem sig := 48
abbrev cc8_sem2_0 : DmaSem sig := 49
abbrev cc8_sem2_1 : DmaSem sig := 50

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![8, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S256x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S2048x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S256x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![8, 1], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S256x2048 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 1 → Memref sig .tc .vmem S2048x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true]

abbrev stage2_2 : Fin 2 → Memref sig .tc .vmem S256x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev grid3 : Pipeline.Grid := ⟨2, ![8, 1], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S256x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 1 → Memref sig .tc .vmem S256x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, true]

abbrev stage3_2 : Fin 2 → Memref sig .tc .vmem S256x256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev grid4 : Pipeline.Grid := ⟨2, ![8, 1], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage4_0 : Fin 2 → Memref sig .tc .vmem S256x2048 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false]

abbrev stage4_1 : Fin 1 → Memref sig .tc .vmem S2048x256 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false, true]

abbrev stage4_2 : Fin 2 → Memref sig .tc .vmem S256x256 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

abbrev grid5 : Pipeline.Grid := ⟨2, ![8, 8], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage5_0 : Fin 2 → Memref sig .tc .vmem S256x256 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false]

abbrev stage5_1 : Fin 2 → Memref sig .tc .vmem S256x256 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true]

abbrev stage5_2 : Fin 2 → Memref sig .tc .vmem S256x256 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true]

abbrev grid6 : Pipeline.Grid := ⟨2, ![8, 8], ![false, false]⟩

def cc6_transform_0 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc6_transform_2 (i : grid6.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage6_0 : Fin 2 → Memref sig .tc .vmem S256x2048 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, false]

abbrev stage6_1 : Fin 2 → Memref sig .tc .vmem S2048x256 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![false, true]

abbrev stage6_2 : Fin 2 → Memref sig .tc .vmem S256x256 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true]

abbrev grid7 : Pipeline.Grid := ⟨2, ![8, 8], ![false, false]⟩

def cc7_transform_0 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc7_transform_2 (i : grid7.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage7_0 : Fin 2 → Memref sig .tc .vmem S256x256 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, false]

abbrev stage7_1 : Fin 2 → Memref sig .tc .vmem S256x256 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![false, true]

abbrev stage7_2 : Fin 2 → Memref sig .tc .vmem S256x256 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, true]

abbrev grid8 : Pipeline.Grid := ⟨2, ![8, 8], ![false, false]⟩

def cc8_transform_0 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc8_transform_2 (i : grid8.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage8_0 : Fin 2 → Memref sig .tc .vmem S256x2048 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true, false]

abbrev stage8_1 : Fin 2 → Memref sig .tc .vmem S2048x256 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![false, true]

abbrev stage8_2 : Fin 2 → Memref sig .tc .vmem S256x256 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true, true]

class Facts₀ : Prop where
  shapeCasts_S6144x1x16x16_S6144x256 : S6144x1x16x16.ShapeCasts S6144x256
  slices_S6144x256_S2048x256_4096_0 : S6144x256.Slices ![4096, 0] S2048x256
  reducesTo_S2048x256_S2048_d1 : S2048x256.ReducesTo [1] S2048
  h_S_ : 0 < S_.numel
  transposes_S2048x256_S256x2048_1_0 : S2048x256.Transposes [1, 0] S256x2048
  inb_S256x256_S256x256_0_0 : ∀ a, (![0, 0] : Fin 2 → Nat) a + S256x256.size a ≤ S256x256.size a
  h_S256x256 : 0 < S256x256.numel
  shapeCasts_S256x256_S256x256 : S256x256.ShapeCasts S256x256
  bcast_S2048_S2048x1_0 : S2048.BroadcastsInDim S2048x1 (![0] : Fin 1 → Fin S2048x1.rank)
  bcast_S2048_S1x2048_1 : S2048.BroadcastsInDim S1x2048 (![1] : Fin 1 → Fin S1x2048.rank)
  bcast_S2048x1_S2048x2048_0_1 : S2048x1.BroadcastsInDim S2048x2048 (![0, 1] : Fin 2 → Fin S2048x2048.rank)
  bcast_S1x2048_S2048x2048_0_1 : S1x2048.BroadcastsInDim S2048x2048 (![0, 1] : Fin 2 → Fin S2048x2048.rank)
  bcast_S_S2048x2048 : S_.BroadcastsInDim S2048x2048 (![] : Fin 0 → Fin S2048x2048.rank)
  reducesTo_S2048x2048_S_d0_1 : S2048x2048.ReducesTo [0, 1] S_
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  reducesTo_S2048x2048_S2048_d1 : S2048x2048.ReducesTo [1] S2048
  bcast_S_S2048 : S_.BroadcastsInDim S2048 (![] : Fin 0 → Fin S2048.rank)
  reducesTo_S2048x2048_S2048_d0 : S2048x2048.ReducesTo [0] S2048
  bcast_S2048x1_S2048x256_0_1 : S2048x1.BroadcastsInDim S2048x256 (![0, 1] : Fin 2 → Fin S2048x256.rank)
  slices_S3x16x16_S1x16x16_0_0_0 : S3x16x16.Slices ![0, 0, 0] S1x16x16
  shapeCasts_S1x16x16_S16x16 : S1x16x16.ShapeCasts S16x16
  bcast_S_S16x8 : S_.BroadcastsInDim S16x8 (![] : Fin 0 → Fin S16x8.rank)
  slices_S3x16x16_S1x16x16_1_0_0 : S3x16x16.Slices ![1, 0, 0] S1x16x16
  slices_S3x16x16_S1x16x16_2_0_0 : S3x16x16.Slices ![2, 0, 0] S1x16x16
  slices_S16x8_S16x1_0_0 : S16x8.Slices ![0, 0] S16x1
  slices_S16x8_S16x1_0_4 : S16x8.Slices ![0, 4] S16x1
  slices_S4x256x8_S1x256x8_0_0_0 : S4x256x8.Slices ![0, 0, 0] S1x256x8
  shapeCasts_S1x256x8_S256x8 : S1x256x8.ShapeCasts S256x8
  slices_S16x1_S8x1_0_0 : S16x1.Slices ![0, 0] S8x1
  slices_S16x1_S8x1_8_0 : S16x1.Slices ![8, 0] S8x1
  transposes_S2048x1_S1x2048_1_0 : S2048x1.Transposes [1, 0] S1x2048
  reducesTo_S2048x1_S_d0_1 : S2048x1.ReducesTo [0, 1] S_
  bcast_S_S2048x1 : S_.BroadcastsInDim S2048x1 (![] : Fin 0 → Fin S2048x1.rank)
  transposes_S2048x2048_S2048x2048_1_0 : S2048x2048.Transposes [1, 0] S2048x2048
  bcast_S_S2048x8 : S_.BroadcastsInDim S2048x8 (![] : Fin 0 → Fin S2048x8.rank)
  slices_S16x8_S16x1_0_1 : S16x8.Slices ![0, 1] S16x1
  slices_S16x8_S16x1_0_5 : S16x8.Slices ![0, 5] S16x1
  slices_S4x256x8_S1x256x8_1_0_0 : S4x256x8.Slices ![1, 0, 0] S1x256x8
  slices_S16x8_S16x1_0_2 : S16x8.Slices ![0, 2] S16x1
  slices_S16x8_S16x1_0_6 : S16x8.Slices ![0, 6] S16x1
  slices_S4x256x8_S1x256x8_2_0_0 : S4x256x8.Slices ![2, 0, 0] S1x256x8
  slices_S16x8_S16x1_0_3 : S16x8.Slices ![0, 3] S16x1
  slices_S16x8_S16x1_0_7 : S16x8.Slices ![0, 7] S16x1
  slices_S4x256x8_S1x256x8_3_0_0 : S4x256x8.Slices ![3, 0, 0] S1x256x8
  concatenates_S2048x8_S2048x8_S2048x8_S2048x8_S2048x32_d1 : Shape.Concatenates [S2048x8, S2048x8, S2048x8, S2048x8] S2048x32 1
  transposes_S256x32_S32x256_1_0 : S256x32.Transposes [1, 0] S32x256
  bcast_S256_S1x256_1 : S256.BroadcastsInDim S1x256 (![1] : Fin 1 → Fin S1x256.rank)
  bcast_S1x256_S2048x256_0_1 : S1x256.BroadcastsInDim S2048x256 (![0, 1] : Fin 2 → Fin S2048x256.rank)
  bcast_S_S2048x256 : S_.BroadcastsInDim S2048x256 (![] : Fin 0 → Fin S2048x256.rank)
  bcast_S_S16x2 : S_.BroadcastsInDim S16x2 (![] : Fin 0 → Fin S16x2.rank)
  slices_S16x2_S16x1_0_0 : S16x2.Slices ![0, 0] S16x1
  slices_S16x2_S16x1_0_1 : S16x2.Slices ![0, 1] S16x1
  dot_S256x256_S256x256_S256x256_1_0_0_1_n_n_wf : DotDims.WF S256x256 S256x256 S256x256 [1] [0] [0] [1] [] []
  dot_S256x2048_S2048x256_S256x256_1_0_0_1_n_n_wf : DotDims.WF S256x2048 S2048x256 S256x256 [1] [0] [0] [1] [] []
  dot_S16x16_S16x8_S16x8_1_0_0_1_n_n_wf : DotDims.WF S16x16 S16x8 S16x8 [1] [0] [0] [1] [] []
  dot_S2048x256_S256x8_S2048x8_1_0_0_1_n_n_wf : DotDims.WF S2048x256 S256x8 S2048x8 [1] [0] [0] [1] [] []
  dot_S2048x8_S8x1_S2048x1_1_0_0_1_n_n_wf : DotDims.WF S2048x8 S8x1 S2048x1 [1] [0] [0] [1] [] []
  dot_S2048x2048_S2048x8_S2048x8_1_0_0_1_n_n_wf : DotDims.WF S2048x2048 S2048x8 S2048x8 [1] [0] [0] [1] [] []
  dot_S2048x32_S32x256_S2048x256_1_0_0_1_n_n_wf : DotDims.WF S2048x32 S32x256 S2048x256 [1] [0] [0] [1] [] []
  dot_S16x16_S16x2_S16x2_1_0_0_1_n_n_wf : DotDims.WF S16x16 S16x2 S16x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x256.size a ≤ S2048x256.size a
  hwx0_0 : ∀ i : grid0.Coords, EltTy.bits .f32 = 32 ∨ (Rect.block (s := S2048x256) S256x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x2048.size a
  hwx0_1 : ∀ i : grid0.Coords, EltTy.bits .f32 = 32 ∨ (Rect.block (s := S256x2048) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S2048x2048.size a
  hwx0_2 : ∀ i : grid0.Coords, EltTy.bits .f32 = 32 ∨ (Rect.block (s := S2048x2048) S256x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x2048.size a ≤ S2048x2048.size a
  hwx1_0 : ∀ i : grid1.Coords, EltTy.bits .f32 = 32 ∨ (Rect.block (s := S2048x2048) S256x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x256.size a ≤ S2048x2048.size a
  hwx1_1 : ∀ i : grid1.Coords, EltTy.bits .f32 = 32 ∨ (Rect.block (s := S2048x2048) S2048x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S2048x2048.size a
  hwx1_2 : ∀ i : grid1.Coords, EltTy.bits .f32 = 32 ∨ (Rect.block (s := S2048x2048) S256x256.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S256x2048.size a ≤ S2048x2048.size a
  hwx2_0 : ∀ i : grid2.Coords, EltTy.bits .f32 = 32 ∨ (Rect.block (s := S2048x2048) S256x2048.size (cc2_transform_0 i) (hinb2_0 i)).WholeWords (EltTy.packing .f32)
  hstage2_1 : ∀ j, (stage2_1 j).IsWhole
  nbuf2_1 : grid2.bufCount reads2_1 false = 1
  hreads2_1 : ∀ i i' : grid2.Coords, (∀ a, reads2_1 a = true → i a = i' a) → cc2_transform_1 i = cc2_transform_1 i'
  hinb2_1 : ∀ (i : grid2.Coords) a, (cc2_transform_1 i a + 1) * S2048x256.size a ≤ S2048x256.size a
  hwx2_1 : ∀ i : grid2.Coords, EltTy.bits .f32 = 32 ∨ (Rect.block (s := S2048x256) S2048x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S256x256.size a ≤ S2048x256.size a
  hwx2_2 : ∀ i : grid2.Coords, EltTy.bits .f32 = 32 ∨ (Rect.block (s := S2048x256) S256x256.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S256x256.size a ≤ S2048x256.size a
  hwx3_0 : ∀ i : grid3.Coords, EltTy.bits .f32 = 32 ∨ (Rect.block (s := S2048x256) S256x256.size (cc3_transform_0 i) (hinb3_0 i)).WholeWords (EltTy.packing .f32)
  hstage3_1 : ∀ j, (stage3_1 j).IsWhole
  nbuf3_1 : grid3.bufCount reads3_1 false = 1
  hreads3_1 : ∀ i i' : grid3.Coords, (∀ a, reads3_1 a = true → i a = i' a) → cc3_transform_1 i = cc3_transform_1 i'
  hinb3_1 : ∀ (i : grid3.Coords) a, (cc3_transform_1 i a + 1) * S256x256.size a ≤ S256x256.size a
  hwx3_1 : ∀ i : grid3.Coords, EltTy.bits .f32 = 32 ∨ (Rect.block (s := S256x256) S256x256.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S256x256.size a ≤ S2048x256.size a
  hwx3_2 : ∀ i : grid3.Coords, EltTy.bits .f32 = 32 ∨ (Rect.block (s := S2048x256) S256x256.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S256x2048.size a ≤ S2048x2048.size a
  hwx4_0 : ∀ i : grid4.Coords, EltTy.bits .f32 = 32 ∨ (Rect.block (s := S2048x2048) S256x2048.size (cc4_transform_0 i) (hinb4_0 i)).WholeWords (EltTy.packing .f32)
  hstage4_1 : ∀ j, (stage4_1 j).IsWhole
  nbuf4_1 : grid4.bufCount reads4_1 false = 1
  hreads4_1 : ∀ i i' : grid4.Coords, (∀ a, reads4_1 a = true → i a = i' a) → cc4_transform_1 i = cc4_transform_1 i'
  hinb4_1 : ∀ (i : grid4.Coords) a, (cc4_transform_1 i a + 1) * S2048x256.size a ≤ S2048x256.size a
  hwx4_1 : ∀ i : grid4.Coords, EltTy.bits .f32 = 32 ∨ (Rect.block (s := S2048x256) S2048x256.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S256x256.size a ≤ S2048x256.size a
  hwx4_2 : ∀ i : grid4.Coords, EltTy.bits .f32 = 32 ∨ (Rect.block (s := S2048x256) S256x256.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S256x256.size a ≤ S2048x256.size a
  hwx5_0 : ∀ i : grid5.Coords, EltTy.bits .f32 = 32 ∨ (Rect.block (s := S2048x256) S256x256.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S256x256.size a ≤ S256x2048.size a
  hwx5_1 : ∀ i : grid5.Coords, EltTy.bits .f32 = 32 ∨ (Rect.block (s := S256x2048) S256x256.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S256x256.size a ≤ S2048x2048.size a
  hwx5_2 : ∀ i : grid5.Coords, EltTy.bits .f32 = 32 ∨ (Rect.block (s := S2048x2048) S256x256.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S256x2048.size a ≤ S2048x2048.size a
  hwx6_0 : ∀ i : grid6.Coords, EltTy.bits .f32 = 32 ∨ (Rect.block (s := S2048x2048) S256x2048.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S2048x256.size a ≤ S2048x2048.size a
  hwx6_1 : ∀ i : grid6.Coords, EltTy.bits .f32 = 32 ∨ (Rect.block (s := S2048x2048) S2048x256.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S256x256.size a ≤ S2048x2048.size a
  hwx6_2 : ∀ i : grid6.Coords, EltTy.bits .f32 = 32 ∨ (Rect.block (s := S2048x2048) S256x256.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S256x256.size a ≤ S2048x256.size a
  hwx7_0 : ∀ i : grid7.Coords, EltTy.bits .f32 = 32 ∨ (Rect.block (s := S2048x256) S256x256.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S256x256.size a ≤ S256x2048.size a
  hwx7_1 : ∀ i : grid7.Coords, EltTy.bits .f32 = 32 ∨ (Rect.block (s := S256x2048) S256x256.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S256x256.size a ≤ S2048x2048.size a
  hwx7_2 : ∀ i : grid7.Coords, EltTy.bits .f32 = 32 ∨ (Rect.block (s := S2048x2048) S256x256.size (cc7_transform_2 i) (hinb7_2 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S256x2048.size a ≤ S2048x2048.size a
  hwx8_0 : ∀ i : grid8.Coords, EltTy.bits .f32 = 32 ∨ (Rect.block (s := S2048x2048) S256x2048.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S2048x256.size a ≤ S2048x2048.size a
  hwx8_1 : ∀ i : grid8.Coords, EltTy.bits .f32 = 32 ∨ (Rect.block (s := S2048x2048) S2048x256.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S256x256.size a ≤ S2048x2048.size a
  hwx8_2 : ∀ i : grid8.Coords, EltTy.bits .f32 = 32 ∨ (Rect.block (s := S2048x2048) S256x256.size (cc8_transform_2 i) (hinb8_2 i)).WholeWords (EltTy.packing .f32)

variable [Facts₀]

def dot_S256x256_S256x256_S256x256_1_0_0_1_n_n : DotDims S256x256 S256x256 S256x256 where
  lhsContracting := [1]
  rhsContracting := [0]
  lhsNonContracting := [0]
  rhsNonContracting := [1]
  lhsBatch := []
  rhsBatch := []
  wf := dot_S256x256_S256x256_S256x256_1_0_0_1_n_n_wf
def dot_S256x2048_S2048x256_S256x256_1_0_0_1_n_n : DotDims S256x2048 S2048x256 S256x256 where
  lhsContracting := [1]
  rhsContracting := [0]
  lhsNonContracting := [0]
  rhsNonContracting := [1]
  lhsBatch := []
  rhsBatch := []
  wf := dot_S256x2048_S2048x256_S256x256_1_0_0_1_n_n_wf
def dot_S16x16_S16x8_S16x8_1_0_0_1_n_n : DotDims S16x16 S16x8 S16x8 where
  lhsContracting := [1]
  rhsContracting := [0]
  lhsNonContracting := [0]
  rhsNonContracting := [1]
  lhsBatch := []
  rhsBatch := []
  wf := dot_S16x16_S16x8_S16x8_1_0_0_1_n_n_wf
def dot_S2048x256_S256x8_S2048x8_1_0_0_1_n_n : DotDims S2048x256 S256x8 S2048x8 where
  lhsContracting := [1]
  rhsContracting := [0]
  lhsNonContracting := [0]
  rhsNonContracting := [1]
  lhsBatch := []
  rhsBatch := []
  wf := dot_S2048x256_S256x8_S2048x8_1_0_0_1_n_n_wf
def dot_S2048x8_S8x1_S2048x1_1_0_0_1_n_n : DotDims S2048x8 S8x1 S2048x1 where
  lhsContracting := [1]
  rhsContracting := [0]
  lhsNonContracting := [0]
  rhsNonContracting := [1]
  lhsBatch := []
  rhsBatch := []
  wf := dot_S2048x8_S8x1_S2048x1_1_0_0_1_n_n_wf
def dot_S2048x2048_S2048x8_S2048x8_1_0_0_1_n_n : DotDims S2048x2048 S2048x8 S2048x8 where
  lhsContracting := [1]
  rhsContracting := [0]
  lhsNonContracting := [0]
  rhsNonContracting := [1]
  lhsBatch := []
  rhsBatch := []
  wf := dot_S2048x2048_S2048x8_S2048x8_1_0_0_1_n_n_wf
def dot_S2048x32_S32x256_S2048x256_1_0_0_1_n_n : DotDims S2048x32 S32x256 S2048x256 where
  lhsContracting := [1]
  rhsContracting := [0]
  lhsNonContracting := [0]
  rhsNonContracting := [1]
  lhsBatch := []
  rhsBatch := []
  wf := dot_S2048x32_S32x256_S2048x256_1_0_0_1_n_n_wf
def dot_S16x16_S16x2_S16x2_1_0_0_1_n_n : DotDims S16x16 S16x2 S16x2 where
  lhsContracting := [1]
  rhsContracting := [0]
  lhsNonContracting := [0]
  rhsNonContracting := [1]
  lhsBatch := []
  rhsBatch := []
  wf := dot_S16x16_S16x2_S16x2_1_0_0_1_n_n_wf

abbrev win0_0 : Pipeline.Window sig grid0 :=
  Pipeline.Window.ofSpec (Memref.whole main_v1) S256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S256x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S256x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v20) S256x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20) S2048x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v21) S256x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v24) S256x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v33) S2048x256.size cc2_transform_1 reads2_1 false false 1 stage2_1 sem2_1
    hrank2 hreads2_1 hinb2_1 nbuf2_1 (Memref.isWhole_whole _) hwx2_1 hstage2_1

abbrev win2_2 : Pipeline.Window sig grid2 :=
  Pipeline.Window.ofSpec (Memref.whole main_v34) S256x256.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v37) S256x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg1) S256x256.size cc3_transform_1 reads3_1 false false 1 stage3_1 sem3_1
    hrank3 hreads3_1 hinb3_1 nbuf3_1 (Memref.isWhole_whole _) hwx3_1 hstage3_1

abbrev win3_2 : Pipeline.Window sig grid3 :=
  Pipeline.Window.ofSpec (Memref.whole main_v38) S256x256.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v24) S256x2048.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v42) S2048x256.size cc4_transform_1 reads4_1 false false 1 stage4_1 sem4_1
    hrank4 hreads4_1 hinb4_1 nbuf4_1 (Memref.isWhole_whole _) hwx4_1 hstage4_1

abbrev win4_2 : Pipeline.Window sig grid4 :=
  Pipeline.Window.ofSpec (Memref.whole main_v43) S256x256.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v45) S256x256.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v169) S256x256.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v170) S256x256.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v24) S256x2048.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v24) S2048x256.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v189) S256x256.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v555) S256x256.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v679) S256x256.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v680) S256x256.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev win8_0 : Pipeline.Window sig grid8 :=
  Pipeline.Window.ofSpec (Memref.whole main_v24) S256x2048.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v24) S2048x256.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v699) S256x256.size cc8_transform_2 reads8_2 true false 2 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

class Facts : Prop extends Facts₀ where

variable [Facts]
-- ==== ReferenceIdeal.lean ====
abbrev S6144x1x16x16 : Shape := ⟨4, ![6144, 1, 16, 16]⟩
abbrev S256x256 : Shape := ⟨2, ![256, 256]⟩
abbrev S256x32 : Shape := ⟨2, ![256, 32]⟩
abbrev S256 : Shape := ⟨1, ![256]⟩
abbrev S4x256x8 : Shape := ⟨3, ![4, 256, 8]⟩
abbrev S16x8 : Shape := ⟨2, ![16, 8]⟩
abbrev S3x16x16 : Shape := ⟨3, ![3, 16, 16]⟩
abbrev S1x256x8 : Shape := ⟨3, ![1, 256, 8]⟩
abbrev S16x2 : Shape := ⟨2, ![16, 2]⟩
abbrev S3x2048x256 : Shape := ⟨3, ![3, 2048, 256]⟩
abbrev S1x2048x256 : Shape := ⟨3, ![1, 2048, 256]⟩
abbrev S2048x256 : Shape := ⟨2, ![2048, 256]⟩
abbrev S_ : Shape := ⟨0, ![]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S256x2048 : Shape := ⟨2, ![256, 2048]⟩
abbrev S1x16x16 : Shape := ⟨3, ![1, 16, 16]⟩
abbrev S16x16 : Shape := ⟨2, ![16, 16]⟩
abbrev S16x1 : Shape := ⟨2, ![16, 1]⟩
abbrev S256x8 : Shape := ⟨2, ![256, 8]⟩
abbrev S2048x8 : Shape := ⟨2, ![2048, 8]⟩
abbrev S8x1 : Shape := ⟨2, ![8, 1]⟩
abbrev S2048x32 : Shape := ⟨2, ![2048, 32]⟩
abbrev S32x256 : Shape := ⟨2, ![32, 256]⟩
abbrev S1x256 : Shape := ⟨2, ![1, 256]⟩

abbrev nBuf : Space → Nat
  | .hbm => 3487
  | .vmem => 0
  | .smem => 0
  | _ => 0

abbrev hbmTy0_0 (i : Nat) : BufTy := match i % 128 with
  | 0 => ⟨S6144x1x16x16, .f32⟩
  | 1 => ⟨S256x256, .f32⟩
  | 2 => ⟨S256x32, .f32⟩
  | 3 => ⟨S256, .f32⟩
  | 4 => ⟨S4x256x8, .f32⟩
  | 5 => ⟨S16x8, .f32⟩
  | 6 => ⟨S3x16x16, .f32⟩
  | 7 => ⟨S3x16x16, .f32⟩
  | 8 => ⟨S1x256x8, .f32⟩
  | 9 => ⟨S16x2, .f32⟩
  | 10 => ⟨S3x16x16, .f32⟩
  | 11 => ⟨S3x16x16, .f32⟩
  | 12 => ⟨S3x2048x256, .f32⟩
  | 13 => ⟨S1x2048x256, .f32⟩
  | 14 => ⟨S2048x256, .f32⟩
  | 15 => ⟨S2048x256, .f32⟩
  | 16 => ⟨S_, .f32⟩
  | 17 => ⟨S2048, .f32⟩
  | 18 => ⟨S2048x1, .f32⟩
  | 19 => ⟨S1x2048, .f32⟩
  | 20 => ⟨S2048x2048, .f32⟩
  | 21 => ⟨S2048x2048, .f32⟩
  | 22 => ⟨S2048x2048, .f32⟩
  | 23 => ⟨S256x2048, .f32⟩
  | 24 => ⟨S2048x2048, .f32⟩
  | 25 => ⟨S_, .f32⟩
  | 26 => ⟨S2048x2048, .f32⟩
  | 27 => ⟨S2048x2048, .f32⟩
  | 28 => ⟨S2048x2048, .f32⟩
  | 29 => ⟨S2048x2048, .f32⟩
  | 30 => ⟨S_, .f32⟩
  | 31 => ⟨S_, .f32⟩
  | 32 => ⟨S_, .f32⟩
  | 33 => ⟨S_, .f32⟩
  | 34 => ⟨S_, .f32⟩
  | 35 => ⟨S_, .f32⟩
  | 36 => ⟨S2048x2048, .f32⟩
  | 37 => ⟨S2048x2048, .i1⟩
  | 38 => ⟨S2048x2048, .f32⟩
  | 39 => ⟨S2048x2048, .f32⟩
  | 40 => ⟨S2048x2048, .f32⟩
  | 41 => ⟨S_, .f32⟩
  | 42 => ⟨S2048x2048, .f32⟩
  | 43 => ⟨S2048x2048, .i1⟩
  | 44 => ⟨S2048x2048, .f32⟩
  | 45 => ⟨S_, .f32⟩
  | 46 => ⟨S2048, .f32⟩
  | 47 => ⟨S_, .f32⟩
  | 48 => ⟨S2048, .f32⟩
  | 49 => ⟨S2048, .f32⟩
  | 50 => ⟨S_, .f32⟩
  | 51 => ⟨S2048, .f32⟩
  | 52 => ⟨S_, .f32⟩
  | 53 => ⟨S2048, .f32⟩
  | 54 => ⟨S2048, .f32⟩
  | 55 => ⟨S2048x1, .f32⟩
  | 56 => ⟨S2048x2048, .f32⟩
  | 57 => ⟨S2048x1, .f32⟩
  | 58 => ⟨S2048x256, .f32⟩
  | 59 => ⟨S2048x256, .f32⟩
  | 60 => ⟨S2048x256, .f32⟩
  | 61 => ⟨S2048x256, .f32⟩
  | 62 => ⟨S2048x256, .f32⟩
  | 63 => ⟨S2048x256, .f32⟩
  | 64 => ⟨S2048x1, .f32⟩
  | 65 => ⟨S2048x1, .f32⟩
  | 66 => ⟨S2048x256, .f32⟩
  | 67 => ⟨S2048x256, .f32⟩
  | 68 => ⟨S2048x256, .f32⟩
  | 69 => ⟨S2048x256, .f32⟩
  | 70 => ⟨S2048x256, .f32⟩
  | 71 => ⟨S1x2048x256, .f32⟩
  | 72 => ⟨S2048x256, .f32⟩
  | 73 => ⟨S2048x256, .f32⟩
  | 74 => ⟨S_, .f32⟩
  | 75 => ⟨S2048, .f32⟩
  | 76 => ⟨S2048x1, .f32⟩
  | 77 => ⟨S1x2048, .f32⟩
  | 78 => ⟨S2048x2048, .f32⟩
  | 79 => ⟨S2048x2048, .f32⟩
  | 80 => ⟨S2048x2048, .f32⟩
  | 81 => ⟨S256x2048, .f32⟩
  | 82 => ⟨S2048x2048, .f32⟩
  | 83 => ⟨S_, .f32⟩
  | 84 => ⟨S2048x2048, .f32⟩
  | 85 => ⟨S2048x2048, .f32⟩
  | 86 => ⟨S2048x2048, .f32⟩
  | 87 => ⟨S2048x2048, .f32⟩
  | 88 => ⟨S_, .f32⟩
  | 89 => ⟨S_, .f32⟩
  | 90 => ⟨S_, .f32⟩
  | 91 => ⟨S_, .f32⟩
  | 92 => ⟨S_, .f32⟩
  | 93 => ⟨S_, .f32⟩
  | 94 => ⟨S2048x2048, .f32⟩
  | 95 => ⟨S2048x2048, .i1⟩
  | 96 => ⟨S2048x2048, .f32⟩
  | 97 => ⟨S2048x2048, .f32⟩
  | 98 => ⟨S2048x2048, .f32⟩
  | 99 => ⟨S_, .f32⟩
  | 100 => ⟨S2048x2048, .f32⟩
  | 101 => ⟨S2048x2048, .i1⟩
  | 102 => ⟨S2048x2048, .f32⟩
  | 103 => ⟨S_, .f32⟩
  | 104 => ⟨S2048, .f32⟩
  | 105 => ⟨S_, .f32⟩
  | 106 => ⟨S2048, .f32⟩
  | 107 => ⟨S2048, .f32⟩
  | 108 => ⟨S_, .f32⟩
  | 109 => ⟨S2048, .f32⟩
  | 110 => ⟨S_, .f32⟩
  | 111 => ⟨S2048, .f32⟩
  | 112 => ⟨S2048, .f32⟩
  | 113 => ⟨S2048x1, .f32⟩
  | 114 => ⟨S2048x2048, .f32⟩
  | 115 => ⟨S2048x1, .f32⟩
  | 116 => ⟨S2048x256, .f32⟩
  | 117 => ⟨S2048x256, .f32⟩
  | 118 => ⟨S2048x256, .f32⟩
  | 119 => ⟨S2048x256, .f32⟩
  | 120 => ⟨S2048x256, .f32⟩
  | 121 => ⟨S2048x256, .f32⟩
  | 122 => ⟨S2048x1, .f32⟩
  | 123 => ⟨S2048x1, .f32⟩
  | 124 => ⟨S2048x256, .f32⟩
  | 125 => ⟨S2048x256, .f32⟩
  | 126 => ⟨S2048x256, .f32⟩
  | 127 => ⟨S2048x256, .f32⟩
  | _ => ⟨S6144x1x16x16, .f32⟩

abbrev hbmTy0_1 (i : Nat) : BufTy := match i % 128 with
  | 0 => ⟨S2048x256, .f32⟩
  | 1 => ⟨S1x2048x256, .f32⟩
  | 2 => ⟨S2048x256, .f32⟩
  | 3 => ⟨S2048x256, .f32⟩
  | 4 => ⟨S_, .f32⟩
  | 5 => ⟨S2048, .f32⟩
  | 6 => ⟨S2048x1, .f32⟩
  | 7 => ⟨S1x2048, .f32⟩
  | 8 => ⟨S2048x2048, .f32⟩
  | 9 => ⟨S2048x2048, .f32⟩
  | 10 => ⟨S2048x2048, .f32⟩
  | 11 => ⟨S256x2048, .f32⟩
  | 12 => ⟨S2048x2048, .f32⟩
  | 13 => ⟨S_, .f32⟩
  | 14 => ⟨S2048x2048, .f32⟩
  | 15 => ⟨S2048x2048, .f32⟩
  | 16 => ⟨S2048x2048, .f32⟩
  | 17 => ⟨S2048x2048, .f32⟩
  | 18 => ⟨S_, .f32⟩
  | 19 => ⟨S_, .f32⟩
  | 20 => ⟨S_, .f32⟩
  | 21 => ⟨S_, .f32⟩
  | 22 => ⟨S_, .f32⟩
  | 23 => ⟨S_, .f32⟩
  | 24 => ⟨S2048x2048, .f32⟩
  | 25 => ⟨S2048x2048, .i1⟩
  | 26 => ⟨S2048x2048, .f32⟩
  | 27 => ⟨S2048x2048, .f32⟩
  | 28 => ⟨S2048x2048, .f32⟩
  | 29 => ⟨S_, .f32⟩
  | 30 => ⟨S2048x2048, .f32⟩
  | 31 => ⟨S2048x2048, .i1⟩
  | 32 => ⟨S2048x2048, .f32⟩
  | 33 => ⟨S_, .f32⟩
  | 34 => ⟨S2048, .f32⟩
  | 35 => ⟨S_, .f32⟩
  | 36 => ⟨S2048, .f32⟩
  | 37 => ⟨S2048, .f32⟩
  | 38 => ⟨S_, .f32⟩
  | 39 => ⟨S2048, .f32⟩
  | 40 => ⟨S_, .f32⟩
  | 41 => ⟨S2048, .f32⟩
  | 42 => ⟨S2048, .f32⟩
  | 43 => ⟨S2048x1, .f32⟩
  | 44 => ⟨S2048x2048, .f32⟩
  | 45 => ⟨S2048x1, .f32⟩
  | 46 => ⟨S2048x256, .f32⟩
  | 47 => ⟨S2048x256, .f32⟩
  | 48 => ⟨S2048x256, .f32⟩
  | 49 => ⟨S2048x256, .f32⟩
  | 50 => ⟨S2048x256, .f32⟩
  | 51 => ⟨S2048x256, .f32⟩
  | 52 => ⟨S2048x1, .f32⟩
  | 53 => ⟨S2048x1, .f32⟩
  | 54 => ⟨S2048x256, .f32⟩
  | 55 => ⟨S2048x256, .f32⟩
  | 56 => ⟨S2048x256, .f32⟩
  | 57 => ⟨S2048x256, .f32⟩
  | 58 => ⟨S2048x256, .f32⟩
  | 59 => ⟨S1x16x16, .f32⟩
  | 60 => ⟨S16x16, .f32⟩
  | 61 => ⟨S16x8, .f32⟩
  | 62 => ⟨S1x16x16, .f32⟩
  | 63 => ⟨S16x16, .f32⟩
  | 64 => ⟨S16x8, .f32⟩
  | 65 => ⟨S16x8, .f32⟩
  | 66 => ⟨S16x8, .f32⟩
  | 67 => ⟨S16x8, .f32⟩
  | 68 => ⟨S_, .f32⟩
  | 69 => ⟨S16x8, .f32⟩
  | 70 => ⟨S16x8, .f32⟩
  | 71 => ⟨S_, .f32⟩
  | 72 => ⟨S16x8, .f32⟩
  | 73 => ⟨S16x8, .f32⟩
  | 74 => ⟨S1x16x16, .f32⟩
  | 75 => ⟨S16x16, .f32⟩
  | 76 => ⟨S16x8, .f32⟩
  | 77 => ⟨S1x16x16, .f32⟩
  | 78 => ⟨S16x16, .f32⟩
  | 79 => ⟨S16x8, .f32⟩
  | 80 => ⟨S16x8, .f32⟩
  | 81 => ⟨S16x8, .f32⟩
  | 82 => ⟨S16x8, .f32⟩
  | 83 => ⟨S_, .f32⟩
  | 84 => ⟨S16x8, .f32⟩
  | 85 => ⟨S16x8, .f32⟩
  | 86 => ⟨S_, .f32⟩
  | 87 => ⟨S16x8, .f32⟩
  | 88 => ⟨S16x8, .f32⟩
  | 89 => ⟨S1x16x16, .f32⟩
  | 90 => ⟨S16x16, .f32⟩
  | 91 => ⟨S16x8, .f32⟩
  | 92 => ⟨S1x16x16, .f32⟩
  | 93 => ⟨S16x16, .f32⟩
  | 94 => ⟨S16x8, .f32⟩
  | 95 => ⟨S16x8, .f32⟩
  | 96 => ⟨S16x8, .f32⟩
  | 97 => ⟨S16x8, .f32⟩
  | 98 => ⟨S_, .f32⟩
  | 99 => ⟨S16x8, .f32⟩
  | 100 => ⟨S16x8, .f32⟩
  | 101 => ⟨S16x8, .f32⟩
  | 102 => ⟨S16x8, .f32⟩
  | 103 => ⟨S16x8, .f32⟩
  | 104 => ⟨S16x1, .f32⟩
  | 105 => ⟨S16x1, .f32⟩
  | 106 => ⟨S1x256x8, .f32⟩
  | 107 => ⟨S256x8, .f32⟩
  | 108 => ⟨S2048x256, .f32⟩
  | 109 => ⟨S_, .f32⟩
  | 110 => ⟨S2048, .f32⟩
  | 111 => ⟨S2048, .f32⟩
  | 112 => ⟨S256x2048, .f32⟩
  | 113 => ⟨S2048x2048, .f32⟩
  | 114 => ⟨S2048x1, .f32⟩
  | 115 => ⟨S1x2048, .f32⟩
  | 116 => ⟨S2048x2048, .f32⟩
  | 117 => ⟨S2048x2048, .f32⟩
  | 118 => ⟨S2048x2048, .f32⟩
  | 119 => ⟨S2048x2048, .f32⟩
  | 120 => ⟨S2048x2048, .i32⟩
  | 121 => ⟨S2048x2048, .i32⟩
  | 122 => ⟨S_, .i32⟩
  | 123 => ⟨S2048x2048, .i32⟩
  | 124 => ⟨S2048x2048, .i32⟩
  | 125 => ⟨S2048x2048, .i1⟩
  | 126 => ⟨S2048x2048, .f32⟩
  | 127 => ⟨S_, .f32⟩
  | _ => ⟨S6144x1x16x16, .f32⟩

abbrev hbmTy0_2 (i : Nat) : BufTy := match i % 128 with
  | 0 => ⟨S2048x2048, .f32⟩
  | 1 => ⟨S2048x2048, .f32⟩
  | 2 => ⟨S_, .f32⟩
  | 3 => ⟨S2048x2048, .f32⟩
  | 4 => ⟨S2048x2048, .i1⟩
  | 5 => ⟨S_, .f32⟩
  | 6 => ⟨S_, .f32⟩
  | 7 => ⟨S2048x2048, .f32⟩
  | 8 => ⟨S2048x2048, .f32⟩
  | 9 => ⟨S2048x2048, .f32⟩
  | 10 => ⟨S2048x2048, .f32⟩
  | 11 => ⟨S2048x2048, .f32⟩
  | 12 => ⟨S_, .f32⟩
  | 13 => ⟨S2048x2048, .f32⟩
  | 14 => ⟨S2048x2048, .i1⟩
  | 15 => ⟨S2048x2048, .f32⟩
  | 16 => ⟨S2048x2048, .f32⟩
  | 17 => ⟨S2048x2048, .f32⟩
  | 18 => ⟨S_, .f32⟩
  | 19 => ⟨S2048, .f32⟩
  | 20 => ⟨S2048x1, .f32⟩
  | 21 => ⟨S2048x2048, .f32⟩
  | 22 => ⟨S2048x2048, .f32⟩
  | 23 => ⟨S_, .f32⟩
  | 24 => ⟨S2048, .f32⟩
  | 25 => ⟨S2048x1, .f32⟩
  | 26 => ⟨S2048x8, .f32⟩
  | 27 => ⟨S2048x8, .f32⟩
  | 28 => ⟨S2048x8, .f32⟩
  | 29 => ⟨S8x1, .f32⟩
  | 30 => ⟨S2048x1, .f32⟩
  | 31 => ⟨S8x1, .f32⟩
  | 32 => ⟨S2048x1, .f32⟩
  | 33 => ⟨S1x2048, .f32⟩
  | 34 => ⟨S2048x2048, .f32⟩
  | 35 => ⟨S2048x2048, .f32⟩
  | 36 => ⟨S2048x2048, .f32⟩
  | 37 => ⟨S_, .f32⟩
  | 38 => ⟨S_, .f32⟩
  | 39 => ⟨S2048x2048, .f32⟩
  | 40 => ⟨S2048x2048, .i1⟩
  | 41 => ⟨S_, .f32⟩
  | 42 => ⟨S2048x2048, .f32⟩
  | 43 => ⟨S2048x2048, .f32⟩
  | 44 => ⟨S2048x2048, .f32⟩
  | 45 => ⟨S_, .f32⟩
  | 46 => ⟨S_, .f32⟩
  | 47 => ⟨S2048x1, .f32⟩
  | 48 => ⟨S2048x1, .f32⟩
  | 49 => ⟨S_, .f32⟩
  | 50 => ⟨S_, .f32⟩
  | 51 => ⟨S_, .f32⟩
  | 52 => ⟨S_, .f32⟩
  | 53 => ⟨S_, .f32⟩
  | 54 => ⟨S2048x1, .f32⟩
  | 55 => ⟨S2048x1, .f32⟩
  | 56 => ⟨S_, .f32⟩
  | 57 => ⟨S_, .f32⟩
  | 58 => ⟨S2048x1, .f32⟩
  | 59 => ⟨S2048x1, .f32⟩
  | 60 => ⟨S_, .f32⟩
  | 61 => ⟨S2048x2048, .f32⟩
  | 62 => ⟨S2048x2048, .i1⟩
  | 63 => ⟨S2048x2048, .f32⟩
  | 64 => ⟨S2048x2048, .f32⟩
  | 65 => ⟨S_, .f32⟩
  | 66 => ⟨S_, .f32⟩
  | 67 => ⟨S2048x2048, .f32⟩
  | 68 => ⟨S2048x2048, .f32⟩
  | 69 => ⟨S_, .f32⟩
  | 70 => ⟨S2048, .f32⟩
  | 71 => ⟨S_, .f32⟩
  | 72 => ⟨S2048, .f32⟩
  | 73 => ⟨S2048, .f32⟩
  | 74 => ⟨S2048x1, .f32⟩
  | 75 => ⟨S2048x2048, .f32⟩
  | 76 => ⟨S2048x2048, .f32⟩
  | 77 => ⟨S2048x2048, .f32⟩
  | 78 => ⟨S_, .f32⟩
  | 79 => ⟨S2048, .f32⟩
  | 80 => ⟨S2048x1, .f32⟩
  | 81 => ⟨S2048x2048, .f32⟩
  | 82 => ⟨S2048x2048, .f32⟩
  | 83 => ⟨S2048x2048, .f32⟩
  | 84 => ⟨S2048x8, .f32⟩
  | 85 => ⟨S_, .f32⟩
  | 86 => ⟨S2048x8, .f32⟩
  | 87 => ⟨S2048x8, .i1⟩
  | 88 => ⟨S_, .f32⟩
  | 89 => ⟨S2048x8, .f32⟩
  | 90 => ⟨S2048x8, .i1⟩
  | 91 => ⟨S_, .f32⟩
  | 92 => ⟨S_, .f32⟩
  | 93 => ⟨S2048x8, .f32⟩
  | 94 => ⟨S2048x8, .f32⟩
  | 95 => ⟨S2048x8, .f32⟩
  | 96 => ⟨S_, .f32⟩
  | 97 => ⟨S2048x8, .f32⟩
  | 98 => ⟨S2048x8, .f32⟩
  | 99 => ⟨S2048x8, .f32⟩
  | 100 => ⟨S2048x2048, .f32⟩
  | 101 => ⟨S2048x8, .f32⟩
  | 102 => ⟨S2048x8, .f32⟩
  | 103 => ⟨S8x1, .f32⟩
  | 104 => ⟨S2048x1, .f32⟩
  | 105 => ⟨S8x1, .f32⟩
  | 106 => ⟨S2048x1, .f32⟩
  | 107 => ⟨S1x2048, .f32⟩
  | 108 => ⟨S2048x2048, .f32⟩
  | 109 => ⟨S2048x2048, .f32⟩
  | 110 => ⟨S2048x2048, .f32⟩
  | 111 => ⟨S_, .f32⟩
  | 112 => ⟨S_, .f32⟩
  | 113 => ⟨S2048x2048, .f32⟩
  | 114 => ⟨S2048x2048, .i1⟩
  | 115 => ⟨S_, .f32⟩
  | 116 => ⟨S2048x2048, .f32⟩
  | 117 => ⟨S2048x2048, .f32⟩
  | 118 => ⟨S2048x2048, .f32⟩
  | 119 => ⟨S_, .f32⟩
  | 120 => ⟨S_, .f32⟩
  | 121 => ⟨S2048x1, .f32⟩
  | 122 => ⟨S2048x1, .f32⟩
  | 123 => ⟨S_, .f32⟩
  | 124 => ⟨S_, .f32⟩
  | 125 => ⟨S_, .f32⟩
  | 126 => ⟨S_, .f32⟩
  | 127 => ⟨S_, .f32⟩
  | _ => ⟨S6144x1x16x16, .f32⟩

abbrev hbmTy0_3 (i : Nat) : BufTy := match i % 128 with
  | 0 => ⟨S2048x1, .f32⟩
  | 1 => ⟨S2048x1, .f32⟩
  | 2 => ⟨S_, .f32⟩
  | 3 => ⟨S_, .f32⟩
  | 4 => ⟨S2048x1, .f32⟩
  | 5 => ⟨S2048x1, .f32⟩
  | 6 => ⟨S_, .f32⟩
  | 7 => ⟨S2048x2048, .f32⟩
  | 8 => ⟨S2048x2048, .i1⟩
  | 9 => ⟨S2048x2048, .f32⟩
  | 10 => ⟨S2048x2048, .f32⟩
  | 11 => ⟨S_, .f32⟩
  | 12 => ⟨S_, .f32⟩
  | 13 => ⟨S2048x2048, .f32⟩
  | 14 => ⟨S2048x2048, .f32⟩
  | 15 => ⟨S_, .f32⟩
  | 16 => ⟨S2048, .f32⟩
  | 17 => ⟨S_, .f32⟩
  | 18 => ⟨S2048, .f32⟩
  | 19 => ⟨S2048, .f32⟩
  | 20 => ⟨S2048x1, .f32⟩
  | 21 => ⟨S2048x2048, .f32⟩
  | 22 => ⟨S2048x2048, .f32⟩
  | 23 => ⟨S2048x2048, .f32⟩
  | 24 => ⟨S_, .f32⟩
  | 25 => ⟨S2048, .f32⟩
  | 26 => ⟨S2048x1, .f32⟩
  | 27 => ⟨S2048x2048, .f32⟩
  | 28 => ⟨S2048x2048, .f32⟩
  | 29 => ⟨S2048x2048, .f32⟩
  | 30 => ⟨S2048x8, .f32⟩
  | 31 => ⟨S_, .f32⟩
  | 32 => ⟨S2048x8, .f32⟩
  | 33 => ⟨S2048x8, .i1⟩
  | 34 => ⟨S_, .f32⟩
  | 35 => ⟨S2048x8, .f32⟩
  | 36 => ⟨S2048x8, .i1⟩
  | 37 => ⟨S_, .f32⟩
  | 38 => ⟨S_, .f32⟩
  | 39 => ⟨S2048x8, .f32⟩
  | 40 => ⟨S2048x8, .f32⟩
  | 41 => ⟨S2048x8, .f32⟩
  | 42 => ⟨S_, .f32⟩
  | 43 => ⟨S2048x8, .f32⟩
  | 44 => ⟨S2048x8, .f32⟩
  | 45 => ⟨S2048x8, .f32⟩
  | 46 => ⟨S16x1, .f32⟩
  | 47 => ⟨S16x1, .f32⟩
  | 48 => ⟨S1x256x8, .f32⟩
  | 49 => ⟨S256x8, .f32⟩
  | 50 => ⟨S2048x256, .f32⟩
  | 51 => ⟨S_, .f32⟩
  | 52 => ⟨S2048, .f32⟩
  | 53 => ⟨S2048, .f32⟩
  | 54 => ⟨S256x2048, .f32⟩
  | 55 => ⟨S2048x2048, .f32⟩
  | 56 => ⟨S2048x1, .f32⟩
  | 57 => ⟨S1x2048, .f32⟩
  | 58 => ⟨S2048x2048, .f32⟩
  | 59 => ⟨S2048x2048, .f32⟩
  | 60 => ⟨S2048x2048, .f32⟩
  | 61 => ⟨S2048x2048, .f32⟩
  | 62 => ⟨S2048x2048, .i32⟩
  | 63 => ⟨S2048x2048, .i32⟩
  | 64 => ⟨S_, .i32⟩
  | 65 => ⟨S2048x2048, .i32⟩
  | 66 => ⟨S2048x2048, .i32⟩
  | 67 => ⟨S2048x2048, .i1⟩
  | 68 => ⟨S2048x2048, .f32⟩
  | 69 => ⟨S_, .f32⟩
  | 70 => ⟨S2048x2048, .f32⟩
  | 71 => ⟨S2048x2048, .f32⟩
  | 72 => ⟨S_, .f32⟩
  | 73 => ⟨S2048x2048, .f32⟩
  | 74 => ⟨S2048x2048, .i1⟩
  | 75 => ⟨S_, .f32⟩
  | 76 => ⟨S_, .f32⟩
  | 77 => ⟨S2048x2048, .f32⟩
  | 78 => ⟨S2048x2048, .f32⟩
  | 79 => ⟨S2048x2048, .f32⟩
  | 80 => ⟨S2048x2048, .f32⟩
  | 81 => ⟨S2048x2048, .f32⟩
  | 82 => ⟨S_, .f32⟩
  | 83 => ⟨S2048x2048, .f32⟩
  | 84 => ⟨S2048x2048, .i1⟩
  | 85 => ⟨S2048x2048, .f32⟩
  | 86 => ⟨S2048x2048, .f32⟩
  | 87 => ⟨S2048x2048, .f32⟩
  | 88 => ⟨S_, .f32⟩
  | 89 => ⟨S2048, .f32⟩
  | 90 => ⟨S2048x1, .f32⟩
  | 91 => ⟨S2048x2048, .f32⟩
  | 92 => ⟨S2048x2048, .f32⟩
  | 93 => ⟨S_, .f32⟩
  | 94 => ⟨S2048, .f32⟩
  | 95 => ⟨S2048x1, .f32⟩
  | 96 => ⟨S2048x8, .f32⟩
  | 97 => ⟨S2048x8, .f32⟩
  | 98 => ⟨S2048x8, .f32⟩
  | 99 => ⟨S8x1, .f32⟩
  | 100 => ⟨S2048x1, .f32⟩
  | 101 => ⟨S8x1, .f32⟩
  | 102 => ⟨S2048x1, .f32⟩
  | 103 => ⟨S1x2048, .f32⟩
  | 104 => ⟨S2048x2048, .f32⟩
  | 105 => ⟨S2048x2048, .f32⟩
  | 106 => ⟨S2048x2048, .f32⟩
  | 107 => ⟨S_, .f32⟩
  | 108 => ⟨S_, .f32⟩
  | 109 => ⟨S2048x2048, .f32⟩
  | 110 => ⟨S2048x2048, .i1⟩
  | 111 => ⟨S_, .f32⟩
  | 112 => ⟨S2048x2048, .f32⟩
  | 113 => ⟨S2048x2048, .f32⟩
  | 114 => ⟨S2048x2048, .f32⟩
  | 115 => ⟨S_, .f32⟩
  | 116 => ⟨S_, .f32⟩
  | 117 => ⟨S2048x1, .f32⟩
  | 118 => ⟨S2048x1, .f32⟩
  | 119 => ⟨S_, .f32⟩
  | 120 => ⟨S_, .f32⟩
  | 121 => ⟨S_, .f32⟩
  | 122 => ⟨S_, .f32⟩
  | 123 => ⟨S_, .f32⟩
  | 124 => ⟨S2048x1, .f32⟩
  | 125 => ⟨S2048x1, .f32⟩
  | 126 => ⟨S_, .f32⟩
  | 127 => ⟨S_, .f32⟩
  | _ => ⟨S6144x1x16x16, .f32⟩

abbrev hbmTy0_4 (i : Nat) : BufTy := match i % 128 with
  | 0 => ⟨S2048x1, .f32⟩
  | 1 => ⟨S2048x1, .f32⟩
  | 2 => ⟨S_, .f32⟩
  | 3 => ⟨S2048x2048, .f32⟩
  | 4 => ⟨S2048x2048, .i1⟩
  | 5 => ⟨S2048x2048, .f32⟩
  | 6 => ⟨S2048x2048, .f32⟩
  | 7 => ⟨S_, .f32⟩
  | 8 => ⟨S_, .f32⟩
  | 9 => ⟨S2048x2048, .f32⟩
  | 10 => ⟨S2048x2048, .f32⟩
  | 11 => ⟨S_, .f32⟩
  | 12 => ⟨S2048, .f32⟩
  | 13 => ⟨S_, .f32⟩
  | 14 => ⟨S2048, .f32⟩
  | 15 => ⟨S2048, .f32⟩
  | 16 => ⟨S2048x1, .f32⟩
  | 17 => ⟨S2048x2048, .f32⟩
  | 18 => ⟨S2048x2048, .f32⟩
  | 19 => ⟨S2048x2048, .f32⟩
  | 20 => ⟨S_, .f32⟩
  | 21 => ⟨S2048, .f32⟩
  | 22 => ⟨S2048x1, .f32⟩
  | 23 => ⟨S2048x2048, .f32⟩
  | 24 => ⟨S2048x2048, .f32⟩
  | 25 => ⟨S2048x2048, .f32⟩
  | 26 => ⟨S2048x8, .f32⟩
  | 27 => ⟨S_, .f32⟩
  | 28 => ⟨S2048x8, .f32⟩
  | 29 => ⟨S2048x8, .i1⟩
  | 30 => ⟨S_, .f32⟩
  | 31 => ⟨S2048x8, .f32⟩
  | 32 => ⟨S2048x8, .i1⟩
  | 33 => ⟨S_, .f32⟩
  | 34 => ⟨S_, .f32⟩
  | 35 => ⟨S2048x8, .f32⟩
  | 36 => ⟨S2048x8, .f32⟩
  | 37 => ⟨S2048x8, .f32⟩
  | 38 => ⟨S_, .f32⟩
  | 39 => ⟨S2048x8, .f32⟩
  | 40 => ⟨S2048x8, .f32⟩
  | 41 => ⟨S2048x8, .f32⟩
  | 42 => ⟨S2048x2048, .f32⟩
  | 43 => ⟨S2048x8, .f32⟩
  | 44 => ⟨S2048x8, .f32⟩
  | 45 => ⟨S8x1, .f32⟩
  | 46 => ⟨S2048x1, .f32⟩
  | 47 => ⟨S8x1, .f32⟩
  | 48 => ⟨S2048x1, .f32⟩
  | 49 => ⟨S1x2048, .f32⟩
  | 50 => ⟨S2048x2048, .f32⟩
  | 51 => ⟨S2048x2048, .f32⟩
  | 52 => ⟨S2048x2048, .f32⟩
  | 53 => ⟨S_, .f32⟩
  | 54 => ⟨S_, .f32⟩
  | 55 => ⟨S2048x2048, .f32⟩
  | 56 => ⟨S2048x2048, .i1⟩
  | 57 => ⟨S_, .f32⟩
  | 58 => ⟨S2048x2048, .f32⟩
  | 59 => ⟨S2048x2048, .f32⟩
  | 60 => ⟨S2048x2048, .f32⟩
  | 61 => ⟨S_, .f32⟩
  | 62 => ⟨S_, .f32⟩
  | 63 => ⟨S2048x1, .f32⟩
  | 64 => ⟨S2048x1, .f32⟩
  | 65 => ⟨S_, .f32⟩
  | 66 => ⟨S_, .f32⟩
  | 67 => ⟨S_, .f32⟩
  | 68 => ⟨S_, .f32⟩
  | 69 => ⟨S_, .f32⟩
  | 70 => ⟨S2048x1, .f32⟩
  | 71 => ⟨S2048x1, .f32⟩
  | 72 => ⟨S_, .f32⟩
  | 73 => ⟨S_, .f32⟩
  | 74 => ⟨S2048x1, .f32⟩
  | 75 => ⟨S2048x1, .f32⟩
  | 76 => ⟨S_, .f32⟩
  | 77 => ⟨S2048x2048, .f32⟩
  | 78 => ⟨S2048x2048, .i1⟩
  | 79 => ⟨S2048x2048, .f32⟩
  | 80 => ⟨S2048x2048, .f32⟩
  | 81 => ⟨S_, .f32⟩
  | 82 => ⟨S_, .f32⟩
  | 83 => ⟨S2048x2048, .f32⟩
  | 84 => ⟨S2048x2048, .f32⟩
  | 85 => ⟨S_, .f32⟩
  | 86 => ⟨S2048, .f32⟩
  | 87 => ⟨S_, .f32⟩
  | 88 => ⟨S2048, .f32⟩
  | 89 => ⟨S2048, .f32⟩
  | 90 => ⟨S2048x1, .f32⟩
  | 91 => ⟨S2048x2048, .f32⟩
  | 92 => ⟨S2048x2048, .f32⟩
  | 93 => ⟨S2048x2048, .f32⟩
  | 94 => ⟨S_, .f32⟩
  | 95 => ⟨S2048, .f32⟩
  | 96 => ⟨S2048x1, .f32⟩
  | 97 => ⟨S2048x2048, .f32⟩
  | 98 => ⟨S2048x2048, .f32⟩
  | 99 => ⟨S2048x2048, .f32⟩
  | 100 => ⟨S2048x8, .f32⟩
  | 101 => ⟨S_, .f32⟩
  | 102 => ⟨S2048x8, .f32⟩
  | 103 => ⟨S2048x8, .i1⟩
  | 104 => ⟨S_, .f32⟩
  | 105 => ⟨S2048x8, .f32⟩
  | 106 => ⟨S2048x8, .i1⟩
  | 107 => ⟨S_, .f32⟩
  | 108 => ⟨S_, .f32⟩
  | 109 => ⟨S2048x8, .f32⟩
  | 110 => ⟨S2048x8, .f32⟩
  | 111 => ⟨S2048x8, .f32⟩
  | 112 => ⟨S_, .f32⟩
  | 113 => ⟨S2048x8, .f32⟩
  | 114 => ⟨S2048x8, .f32⟩
  | 115 => ⟨S2048x8, .f32⟩
  | 116 => ⟨S16x1, .f32⟩
  | 117 => ⟨S16x1, .f32⟩
  | 118 => ⟨S1x256x8, .f32⟩
  | 119 => ⟨S256x8, .f32⟩
  | 120 => ⟨S2048x256, .f32⟩
  | 121 => ⟨S_, .f32⟩
  | 122 => ⟨S2048, .f32⟩
  | 123 => ⟨S2048, .f32⟩
  | 124 => ⟨S256x2048, .f32⟩
  | 125 => ⟨S2048x2048, .f32⟩
  | 126 => ⟨S2048x1, .f32⟩
  | 127 => ⟨S1x2048, .f32⟩
  | _ => ⟨S6144x1x16x16, .f32⟩

abbrev hbmTy0_5 (i : Nat) : BufTy := match i % 128 with
  | 0 => ⟨S2048x2048, .f32⟩
  | 1 => ⟨S2048x2048, .f32⟩
  | 2 => ⟨S2048x2048, .f32⟩
  | 3 => ⟨S2048x2048, .f32⟩
  | 4 => ⟨S2048x2048, .i32⟩
  | 5 => ⟨S2048x2048, .i32⟩
  | 6 => ⟨S_, .i32⟩
  | 7 => ⟨S2048x2048, .i32⟩
  | 8 => ⟨S2048x2048, .i32⟩
  | 9 => ⟨S2048x2048, .i1⟩
  | 10 => ⟨S2048x2048, .f32⟩
  | 11 => ⟨S_, .f32⟩
  | 12 => ⟨S2048x2048, .f32⟩
  | 13 => ⟨S2048x2048, .f32⟩
  | 14 => ⟨S_, .f32⟩
  | 15 => ⟨S2048x2048, .f32⟩
  | 16 => ⟨S2048x2048, .i1⟩
  | 17 => ⟨S_, .f32⟩
  | 18 => ⟨S_, .f32⟩
  | 19 => ⟨S2048x2048, .f32⟩
  | 20 => ⟨S2048x2048, .f32⟩
  | 21 => ⟨S2048x2048, .f32⟩
  | 22 => ⟨S2048x2048, .f32⟩
  | 23 => ⟨S2048x2048, .f32⟩
  | 24 => ⟨S_, .f32⟩
  | 25 => ⟨S2048x2048, .f32⟩
  | 26 => ⟨S2048x2048, .i1⟩
  | 27 => ⟨S2048x2048, .f32⟩
  | 28 => ⟨S2048x2048, .f32⟩
  | 29 => ⟨S2048x2048, .f32⟩
  | 30 => ⟨S_, .f32⟩
  | 31 => ⟨S2048, .f32⟩
  | 32 => ⟨S2048x1, .f32⟩
  | 33 => ⟨S2048x2048, .f32⟩
  | 34 => ⟨S2048x2048, .f32⟩
  | 35 => ⟨S_, .f32⟩
  | 36 => ⟨S2048, .f32⟩
  | 37 => ⟨S2048x1, .f32⟩
  | 38 => ⟨S2048x8, .f32⟩
  | 39 => ⟨S2048x8, .f32⟩
  | 40 => ⟨S2048x8, .f32⟩
  | 41 => ⟨S8x1, .f32⟩
  | 42 => ⟨S2048x1, .f32⟩
  | 43 => ⟨S8x1, .f32⟩
  | 44 => ⟨S2048x1, .f32⟩
  | 45 => ⟨S1x2048, .f32⟩
  | 46 => ⟨S2048x2048, .f32⟩
  | 47 => ⟨S2048x2048, .f32⟩
  | 48 => ⟨S2048x2048, .f32⟩
  | 49 => ⟨S_, .f32⟩
  | 50 => ⟨S_, .f32⟩
  | 51 => ⟨S2048x2048, .f32⟩
  | 52 => ⟨S2048x2048, .i1⟩
  | 53 => ⟨S_, .f32⟩
  | 54 => ⟨S2048x2048, .f32⟩
  | 55 => ⟨S2048x2048, .f32⟩
  | 56 => ⟨S2048x2048, .f32⟩
  | 57 => ⟨S_, .f32⟩
  | 58 => ⟨S_, .f32⟩
  | 59 => ⟨S2048x1, .f32⟩
  | 60 => ⟨S2048x1, .f32⟩
  | 61 => ⟨S_, .f32⟩
  | 62 => ⟨S_, .f32⟩
  | 63 => ⟨S_, .f32⟩
  | 64 => ⟨S_, .f32⟩
  | 65 => ⟨S_, .f32⟩
  | 66 => ⟨S2048x1, .f32⟩
  | 67 => ⟨S2048x1, .f32⟩
  | 68 => ⟨S_, .f32⟩
  | 69 => ⟨S_, .f32⟩
  | 70 => ⟨S2048x1, .f32⟩
  | 71 => ⟨S2048x1, .f32⟩
  | 72 => ⟨S_, .f32⟩
  | 73 => ⟨S2048x2048, .f32⟩
  | 74 => ⟨S2048x2048, .i1⟩
  | 75 => ⟨S2048x2048, .f32⟩
  | 76 => ⟨S2048x2048, .f32⟩
  | 77 => ⟨S_, .f32⟩
  | 78 => ⟨S_, .f32⟩
  | 79 => ⟨S2048x2048, .f32⟩
  | 80 => ⟨S2048x2048, .f32⟩
  | 81 => ⟨S_, .f32⟩
  | 82 => ⟨S2048, .f32⟩
  | 83 => ⟨S_, .f32⟩
  | 84 => ⟨S2048, .f32⟩
  | 85 => ⟨S2048, .f32⟩
  | 86 => ⟨S2048x1, .f32⟩
  | 87 => ⟨S2048x2048, .f32⟩
  | 88 => ⟨S2048x2048, .f32⟩
  | 89 => ⟨S2048x2048, .f32⟩
  | 90 => ⟨S_, .f32⟩
  | 91 => ⟨S2048, .f32⟩
  | 92 => ⟨S2048x1, .f32⟩
  | 93 => ⟨S2048x2048, .f32⟩
  | 94 => ⟨S2048x2048, .f32⟩
  | 95 => ⟨S2048x2048, .f32⟩
  | 96 => ⟨S2048x8, .f32⟩
  | 97 => ⟨S_, .f32⟩
  | 98 => ⟨S2048x8, .f32⟩
  | 99 => ⟨S2048x8, .i1⟩
  | 100 => ⟨S_, .f32⟩
  | 101 => ⟨S2048x8, .f32⟩
  | 102 => ⟨S2048x8, .i1⟩
  | 103 => ⟨S_, .f32⟩
  | 104 => ⟨S_, .f32⟩
  | 105 => ⟨S2048x8, .f32⟩
  | 106 => ⟨S2048x8, .f32⟩
  | 107 => ⟨S2048x8, .f32⟩
  | 108 => ⟨S_, .f32⟩
  | 109 => ⟨S2048x8, .f32⟩
  | 110 => ⟨S2048x8, .f32⟩
  | 111 => ⟨S2048x8, .f32⟩
  | 112 => ⟨S2048x2048, .f32⟩
  | 113 => ⟨S2048x8, .f32⟩
  | 114 => ⟨S2048x8, .f32⟩
  | 115 => ⟨S8x1, .f32⟩
  | 116 => ⟨S2048x1, .f32⟩
  | 117 => ⟨S8x1, .f32⟩
  | 118 => ⟨S2048x1, .f32⟩
  | 119 => ⟨S1x2048, .f32⟩
  | 120 => ⟨S2048x2048, .f32⟩
  | 121 => ⟨S2048x2048, .f32⟩
  | 122 => ⟨S2048x2048, .f32⟩
  | 123 => ⟨S_, .f32⟩
  | 124 => ⟨S_, .f32⟩
  | 125 => ⟨S2048x2048, .f32⟩
  | 126 => ⟨S2048x2048, .i1⟩
  | 127 => ⟨S_, .f32⟩
  | _ => ⟨S6144x1x16x16, .f32⟩

abbrev hbmTy0_6 (i : Nat) : BufTy := match i % 128 with
  | 0 => ⟨S2048x2048, .f32⟩
  | 1 => ⟨S2048x2048, .f32⟩
  | 2 => ⟨S2048x2048, .f32⟩
  | 3 => ⟨S_, .f32⟩
  | 4 => ⟨S_, .f32⟩
  | 5 => ⟨S2048x1, .f32⟩
  | 6 => ⟨S2048x1, .f32⟩
  | 7 => ⟨S_, .f32⟩
  | 8 => ⟨S_, .f32⟩
  | 9 => ⟨S_, .f32⟩
  | 10 => ⟨S_, .f32⟩
  | 11 => ⟨S_, .f32⟩
  | 12 => ⟨S2048x1, .f32⟩
  | 13 => ⟨S2048x1, .f32⟩
  | 14 => ⟨S_, .f32⟩
  | 15 => ⟨S_, .f32⟩
  | 16 => ⟨S2048x1, .f32⟩
  | 17 => ⟨S2048x1, .f32⟩
  | 18 => ⟨S_, .f32⟩
  | 19 => ⟨S2048x2048, .f32⟩
  | 20 => ⟨S2048x2048, .i1⟩
  | 21 => ⟨S2048x2048, .f32⟩
  | 22 => ⟨S2048x2048, .f32⟩
  | 23 => ⟨S_, .f32⟩
  | 24 => ⟨S_, .f32⟩
  | 25 => ⟨S2048x2048, .f32⟩
  | 26 => ⟨S2048x2048, .f32⟩
  | 27 => ⟨S_, .f32⟩
  | 28 => ⟨S2048, .f32⟩
  | 29 => ⟨S_, .f32⟩
  | 30 => ⟨S2048, .f32⟩
  | 31 => ⟨S2048, .f32⟩
  | 32 => ⟨S2048x1, .f32⟩
  | 33 => ⟨S2048x2048, .f32⟩
  | 34 => ⟨S2048x2048, .f32⟩
  | 35 => ⟨S2048x2048, .f32⟩
  | 36 => ⟨S_, .f32⟩
  | 37 => ⟨S2048, .f32⟩
  | 38 => ⟨S2048x1, .f32⟩
  | 39 => ⟨S2048x2048, .f32⟩
  | 40 => ⟨S2048x2048, .f32⟩
  | 41 => ⟨S2048x2048, .f32⟩
  | 42 => ⟨S2048x8, .f32⟩
  | 43 => ⟨S_, .f32⟩
  | 44 => ⟨S2048x8, .f32⟩
  | 45 => ⟨S2048x8, .i1⟩
  | 46 => ⟨S_, .f32⟩
  | 47 => ⟨S2048x8, .f32⟩
  | 48 => ⟨S2048x8, .i1⟩
  | 49 => ⟨S_, .f32⟩
  | 50 => ⟨S_, .f32⟩
  | 51 => ⟨S2048x8, .f32⟩
  | 52 => ⟨S2048x8, .f32⟩
  | 53 => ⟨S2048x8, .f32⟩
  | 54 => ⟨S_, .f32⟩
  | 55 => ⟨S2048x8, .f32⟩
  | 56 => ⟨S2048x8, .f32⟩
  | 57 => ⟨S2048x8, .f32⟩
  | 58 => ⟨S16x1, .f32⟩
  | 59 => ⟨S16x1, .f32⟩
  | 60 => ⟨S1x256x8, .f32⟩
  | 61 => ⟨S256x8, .f32⟩
  | 62 => ⟨S2048x256, .f32⟩
  | 63 => ⟨S_, .f32⟩
  | 64 => ⟨S2048, .f32⟩
  | 65 => ⟨S2048, .f32⟩
  | 66 => ⟨S256x2048, .f32⟩
  | 67 => ⟨S2048x2048, .f32⟩
  | 68 => ⟨S2048x1, .f32⟩
  | 69 => ⟨S1x2048, .f32⟩
  | 70 => ⟨S2048x2048, .f32⟩
  | 71 => ⟨S2048x2048, .f32⟩
  | 72 => ⟨S2048x2048, .f32⟩
  | 73 => ⟨S2048x2048, .f32⟩
  | 74 => ⟨S2048x2048, .i32⟩
  | 75 => ⟨S2048x2048, .i32⟩
  | 76 => ⟨S_, .i32⟩
  | 77 => ⟨S2048x2048, .i32⟩
  | 78 => ⟨S2048x2048, .i32⟩
  | 79 => ⟨S2048x2048, .i1⟩
  | 80 => ⟨S2048x2048, .f32⟩
  | 81 => ⟨S_, .f32⟩
  | 82 => ⟨S2048x2048, .f32⟩
  | 83 => ⟨S2048x2048, .f32⟩
  | 84 => ⟨S_, .f32⟩
  | 85 => ⟨S2048x2048, .f32⟩
  | 86 => ⟨S2048x2048, .i1⟩
  | 87 => ⟨S_, .f32⟩
  | 88 => ⟨S_, .f32⟩
  | 89 => ⟨S2048x2048, .f32⟩
  | 90 => ⟨S2048x2048, .f32⟩
  | 91 => ⟨S2048x2048, .f32⟩
  | 92 => ⟨S2048x2048, .f32⟩
  | 93 => ⟨S2048x2048, .f32⟩
  | 94 => ⟨S_, .f32⟩
  | 95 => ⟨S2048x2048, .f32⟩
  | 96 => ⟨S2048x2048, .i1⟩
  | 97 => ⟨S2048x2048, .f32⟩
  | 98 => ⟨S2048x2048, .f32⟩
  | 99 => ⟨S2048x2048, .f32⟩
  | 100 => ⟨S_, .f32⟩
  | 101 => ⟨S2048, .f32⟩
  | 102 => ⟨S2048x1, .f32⟩
  | 103 => ⟨S2048x2048, .f32⟩
  | 104 => ⟨S2048x2048, .f32⟩
  | 105 => ⟨S_, .f32⟩
  | 106 => ⟨S2048, .f32⟩
  | 107 => ⟨S2048x1, .f32⟩
  | 108 => ⟨S2048x8, .f32⟩
  | 109 => ⟨S2048x8, .f32⟩
  | 110 => ⟨S2048x8, .f32⟩
  | 111 => ⟨S8x1, .f32⟩
  | 112 => ⟨S2048x1, .f32⟩
  | 113 => ⟨S8x1, .f32⟩
  | 114 => ⟨S2048x1, .f32⟩
  | 115 => ⟨S1x2048, .f32⟩
  | 116 => ⟨S2048x2048, .f32⟩
  | 117 => ⟨S2048x2048, .f32⟩
  | 118 => ⟨S2048x2048, .f32⟩
  | 119 => ⟨S_, .f32⟩
  | 120 => ⟨S_, .f32⟩
  | 121 => ⟨S2048x2048, .f32⟩
  | 122 => ⟨S2048x2048, .i1⟩
  | 123 => ⟨S_, .f32⟩
  | 124 => ⟨S2048x2048, .f32⟩
  | 125 => ⟨S2048x2048, .f32⟩
  | 126 => ⟨S2048x2048, .f32⟩
  | 127 => ⟨S_, .f32⟩
  | _ => ⟨S6144x1x16x16, .f32⟩

abbrev hbmTy0_7 (i : Nat) : BufTy := match i % 128 with
  | 0 => ⟨S_, .f32⟩
  | 1 => ⟨S2048x1, .f32⟩
  | 2 => ⟨S2048x1, .f32⟩
  | 3 => ⟨S_, .f32⟩
  | 4 => ⟨S_, .f32⟩
  | 5 => ⟨S_, .f32⟩
  | 6 => ⟨S_, .f32⟩
  | 7 => ⟨S_, .f32⟩
  | 8 => ⟨S2048x1, .f32⟩
  | 9 => ⟨S2048x1, .f32⟩
  | 10 => ⟨S_, .f32⟩
  | 11 => ⟨S_, .f32⟩
  | 12 => ⟨S2048x1, .f32⟩
  | 13 => ⟨S2048x1, .f32⟩
  | 14 => ⟨S_, .f32⟩
  | 15 => ⟨S2048x2048, .f32⟩
  | 16 => ⟨S2048x2048, .i1⟩
  | 17 => ⟨S2048x2048, .f32⟩
  | 18 => ⟨S2048x2048, .f32⟩
  | 19 => ⟨S_, .f32⟩
  | 20 => ⟨S_, .f32⟩
  | 21 => ⟨S2048x2048, .f32⟩
  | 22 => ⟨S2048x2048, .f32⟩
  | 23 => ⟨S_, .f32⟩
  | 24 => ⟨S2048, .f32⟩
  | 25 => ⟨S_, .f32⟩
  | 26 => ⟨S2048, .f32⟩
  | 27 => ⟨S2048, .f32⟩
  | 28 => ⟨S2048x1, .f32⟩
  | 29 => ⟨S2048x2048, .f32⟩
  | 30 => ⟨S2048x2048, .f32⟩
  | 31 => ⟨S2048x2048, .f32⟩
  | 32 => ⟨S_, .f32⟩
  | 33 => ⟨S2048, .f32⟩
  | 34 => ⟨S2048x1, .f32⟩
  | 35 => ⟨S2048x2048, .f32⟩
  | 36 => ⟨S2048x2048, .f32⟩
  | 37 => ⟨S2048x2048, .f32⟩
  | 38 => ⟨S2048x8, .f32⟩
  | 39 => ⟨S_, .f32⟩
  | 40 => ⟨S2048x8, .f32⟩
  | 41 => ⟨S2048x8, .i1⟩
  | 42 => ⟨S_, .f32⟩
  | 43 => ⟨S2048x8, .f32⟩
  | 44 => ⟨S2048x8, .i1⟩
  | 45 => ⟨S_, .f32⟩
  | 46 => ⟨S_, .f32⟩
  | 47 => ⟨S2048x8, .f32⟩
  | 48 => ⟨S2048x8, .f32⟩
  | 49 => ⟨S2048x8, .f32⟩
  | 50 => ⟨S_, .f32⟩
  | 51 => ⟨S2048x8, .f32⟩
  | 52 => ⟨S2048x8, .f32⟩
  | 53 => ⟨S2048x8, .f32⟩
  | 54 => ⟨S2048x2048, .f32⟩
  | 55 => ⟨S2048x8, .f32⟩
  | 56 => ⟨S2048x8, .f32⟩
  | 57 => ⟨S8x1, .f32⟩
  | 58 => ⟨S2048x1, .f32⟩
  | 59 => ⟨S8x1, .f32⟩
  | 60 => ⟨S2048x1, .f32⟩
  | 61 => ⟨S1x2048, .f32⟩
  | 62 => ⟨S2048x2048, .f32⟩
  | 63 => ⟨S2048x2048, .f32⟩
  | 64 => ⟨S2048x2048, .f32⟩
  | 65 => ⟨S_, .f32⟩
  | 66 => ⟨S_, .f32⟩
  | 67 => ⟨S2048x2048, .f32⟩
  | 68 => ⟨S2048x2048, .i1⟩
  | 69 => ⟨S_, .f32⟩
  | 70 => ⟨S2048x2048, .f32⟩
  | 71 => ⟨S2048x2048, .f32⟩
  | 72 => ⟨S2048x2048, .f32⟩
  | 73 => ⟨S_, .f32⟩
  | 74 => ⟨S_, .f32⟩
  | 75 => ⟨S2048x1, .f32⟩
  | 76 => ⟨S2048x1, .f32⟩
  | 77 => ⟨S_, .f32⟩
  | 78 => ⟨S_, .f32⟩
  | 79 => ⟨S_, .f32⟩
  | 80 => ⟨S_, .f32⟩
  | 81 => ⟨S_, .f32⟩
  | 82 => ⟨S2048x1, .f32⟩
  | 83 => ⟨S2048x1, .f32⟩
  | 84 => ⟨S_, .f32⟩
  | 85 => ⟨S_, .f32⟩
  | 86 => ⟨S2048x1, .f32⟩
  | 87 => ⟨S2048x1, .f32⟩
  | 88 => ⟨S_, .f32⟩
  | 89 => ⟨S2048x2048, .f32⟩
  | 90 => ⟨S2048x2048, .i1⟩
  | 91 => ⟨S2048x2048, .f32⟩
  | 92 => ⟨S2048x2048, .f32⟩
  | 93 => ⟨S_, .f32⟩
  | 94 => ⟨S_, .f32⟩
  | 95 => ⟨S2048x2048, .f32⟩
  | 96 => ⟨S2048x2048, .f32⟩
  | 97 => ⟨S_, .f32⟩
  | 98 => ⟨S2048, .f32⟩
  | 99 => ⟨S_, .f32⟩
  | 100 => ⟨S2048, .f32⟩
  | 101 => ⟨S2048, .f32⟩
  | 102 => ⟨S2048x1, .f32⟩
  | 103 => ⟨S2048x2048, .f32⟩
  | 104 => ⟨S2048x2048, .f32⟩
  | 105 => ⟨S2048x2048, .f32⟩
  | 106 => ⟨S_, .f32⟩
  | 107 => ⟨S2048, .f32⟩
  | 108 => ⟨S2048x1, .f32⟩
  | 109 => ⟨S2048x2048, .f32⟩
  | 110 => ⟨S2048x2048, .f32⟩
  | 111 => ⟨S2048x2048, .f32⟩
  | 112 => ⟨S2048x8, .f32⟩
  | 113 => ⟨S_, .f32⟩
  | 114 => ⟨S2048x8, .f32⟩
  | 115 => ⟨S2048x8, .i1⟩
  | 116 => ⟨S_, .f32⟩
  | 117 => ⟨S2048x8, .f32⟩
  | 118 => ⟨S2048x8, .i1⟩
  | 119 => ⟨S_, .f32⟩
  | 120 => ⟨S_, .f32⟩
  | 121 => ⟨S2048x8, .f32⟩
  | 122 => ⟨S2048x8, .f32⟩
  | 123 => ⟨S2048x8, .f32⟩
  | 124 => ⟨S_, .f32⟩
  | 125 => ⟨S2048x8, .f32⟩
  | 126 => ⟨S2048x8, .f32⟩
  | 127 => ⟨S2048x8, .f32⟩
  | _ => ⟨S6144x1x16x16, .f32⟩

abbrev hbmTy0_8 (i : Nat) : BufTy := match i % 128 with
  | 0 => ⟨S2048x32, .f32⟩
  | 1 => ⟨S1x16x16, .f32⟩
  | 2 => ⟨S16x16, .f32⟩
  | 3 => ⟨S16x8, .f32⟩
  | 4 => ⟨S1x16x16, .f32⟩
  | 5 => ⟨S16x16, .f32⟩
  | 6 => ⟨S16x8, .f32⟩
  | 7 => ⟨S16x8, .f32⟩
  | 8 => ⟨S16x8, .f32⟩
  | 9 => ⟨S16x8, .f32⟩
  | 10 => ⟨S_, .f32⟩
  | 11 => ⟨S16x8, .f32⟩
  | 12 => ⟨S16x8, .f32⟩
  | 13 => ⟨S_, .f32⟩
  | 14 => ⟨S16x8, .f32⟩
  | 15 => ⟨S16x8, .f32⟩
  | 16 => ⟨S1x16x16, .f32⟩
  | 17 => ⟨S16x16, .f32⟩
  | 18 => ⟨S16x8, .f32⟩
  | 19 => ⟨S1x16x16, .f32⟩
  | 20 => ⟨S16x16, .f32⟩
  | 21 => ⟨S16x8, .f32⟩
  | 22 => ⟨S16x8, .f32⟩
  | 23 => ⟨S16x8, .f32⟩
  | 24 => ⟨S16x8, .f32⟩
  | 25 => ⟨S_, .f32⟩
  | 26 => ⟨S16x8, .f32⟩
  | 27 => ⟨S16x8, .f32⟩
  | 28 => ⟨S_, .f32⟩
  | 29 => ⟨S16x8, .f32⟩
  | 30 => ⟨S16x8, .f32⟩
  | 31 => ⟨S1x16x16, .f32⟩
  | 32 => ⟨S16x16, .f32⟩
  | 33 => ⟨S16x8, .f32⟩
  | 34 => ⟨S1x16x16, .f32⟩
  | 35 => ⟨S16x16, .f32⟩
  | 36 => ⟨S16x8, .f32⟩
  | 37 => ⟨S16x8, .f32⟩
  | 38 => ⟨S16x8, .f32⟩
  | 39 => ⟨S16x8, .f32⟩
  | 40 => ⟨S_, .f32⟩
  | 41 => ⟨S16x8, .f32⟩
  | 42 => ⟨S16x8, .f32⟩
  | 43 => ⟨S16x8, .f32⟩
  | 44 => ⟨S16x8, .f32⟩
  | 45 => ⟨S16x8, .f32⟩
  | 46 => ⟨S16x1, .f32⟩
  | 47 => ⟨S16x1, .f32⟩
  | 48 => ⟨S1x256x8, .f32⟩
  | 49 => ⟨S256x8, .f32⟩
  | 50 => ⟨S2048x256, .f32⟩
  | 51 => ⟨S_, .f32⟩
  | 52 => ⟨S2048, .f32⟩
  | 53 => ⟨S2048, .f32⟩
  | 54 => ⟨S256x2048, .f32⟩
  | 55 => ⟨S2048x2048, .f32⟩
  | 56 => ⟨S2048x1, .f32⟩
  | 57 => ⟨S1x2048, .f32⟩
  | 58 => ⟨S2048x2048, .f32⟩
  | 59 => ⟨S2048x2048, .f32⟩
  | 60 => ⟨S2048x2048, .f32⟩
  | 61 => ⟨S2048x2048, .f32⟩
  | 62 => ⟨S2048x2048, .i32⟩
  | 63 => ⟨S2048x2048, .i32⟩
  | 64 => ⟨S_, .i32⟩
  | 65 => ⟨S2048x2048, .i32⟩
  | 66 => ⟨S2048x2048, .i32⟩
  | 67 => ⟨S2048x2048, .i1⟩
  | 68 => ⟨S2048x2048, .f32⟩
  | 69 => ⟨S_, .f32⟩
  | 70 => ⟨S2048x2048, .f32⟩
  | 71 => ⟨S2048x2048, .f32⟩
  | 72 => ⟨S_, .f32⟩
  | 73 => ⟨S2048x2048, .f32⟩
  | 74 => ⟨S2048x2048, .i1⟩
  | 75 => ⟨S_, .f32⟩
  | 76 => ⟨S_, .f32⟩
  | 77 => ⟨S2048x2048, .f32⟩
  | 78 => ⟨S2048x2048, .f32⟩
  | 79 => ⟨S2048x2048, .f32⟩
  | 80 => ⟨S2048x2048, .f32⟩
  | 81 => ⟨S2048x2048, .f32⟩
  | 82 => ⟨S_, .f32⟩
  | 83 => ⟨S2048x2048, .f32⟩
  | 84 => ⟨S2048x2048, .i1⟩
  | 85 => ⟨S2048x2048, .f32⟩
  | 86 => ⟨S2048x2048, .f32⟩
  | 87 => ⟨S2048x2048, .f32⟩
  | 88 => ⟨S_, .f32⟩
  | 89 => ⟨S2048, .f32⟩
  | 90 => ⟨S2048x1, .f32⟩
  | 91 => ⟨S2048x2048, .f32⟩
  | 92 => ⟨S2048x2048, .f32⟩
  | 93 => ⟨S_, .f32⟩
  | 94 => ⟨S2048, .f32⟩
  | 95 => ⟨S2048x1, .f32⟩
  | 96 => ⟨S2048x8, .f32⟩
  | 97 => ⟨S2048x8, .f32⟩
  | 98 => ⟨S2048x8, .f32⟩
  | 99 => ⟨S8x1, .f32⟩
  | 100 => ⟨S2048x1, .f32⟩
  | 101 => ⟨S8x1, .f32⟩
  | 102 => ⟨S2048x1, .f32⟩
  | 103 => ⟨S1x2048, .f32⟩
  | 104 => ⟨S2048x2048, .f32⟩
  | 105 => ⟨S2048x2048, .f32⟩
  | 106 => ⟨S2048x2048, .f32⟩
  | 107 => ⟨S_, .f32⟩
  | 108 => ⟨S_, .f32⟩
  | 109 => ⟨S2048x2048, .f32⟩
  | 110 => ⟨S2048x2048, .i1⟩
  | 111 => ⟨S_, .f32⟩
  | 112 => ⟨S2048x2048, .f32⟩
  | 113 => ⟨S2048x2048, .f32⟩
  | 114 => ⟨S2048x2048, .f32⟩
  | 115 => ⟨S_, .f32⟩
  | 116 => ⟨S_, .f32⟩
  | 117 => ⟨S2048x1, .f32⟩
  | 118 => ⟨S2048x1, .f32⟩
  | 119 => ⟨S_, .f32⟩
  | 120 => ⟨S_, .f32⟩
  | 121 => ⟨S_, .f32⟩
  | 122 => ⟨S_, .f32⟩
  | 123 => ⟨S_, .f32⟩
  | 124 => ⟨S2048x1, .f32⟩
  | 125 => ⟨S2048x1, .f32⟩
  | 126 => ⟨S_, .f32⟩
  | 127 => ⟨S_, .f32⟩
  | _ => ⟨S6144x1x16x16, .f32⟩

abbrev hbmTy0_9 (i : Nat) : BufTy := match i % 128 with
  | 0 => ⟨S2048x1, .f32⟩
  | 1 => ⟨S2048x1, .f32⟩
  | 2 => ⟨S_, .f32⟩
  | 3 => ⟨S2048x2048, .f32⟩
  | 4 => ⟨S2048x2048, .i1⟩
  | 5 => ⟨S2048x2048, .f32⟩
  | 6 => ⟨S2048x2048, .f32⟩
  | 7 => ⟨S_, .f32⟩
  | 8 => ⟨S_, .f32⟩
  | 9 => ⟨S2048x2048, .f32⟩
  | 10 => ⟨S2048x2048, .f32⟩
  | 11 => ⟨S_, .f32⟩
  | 12 => ⟨S2048, .f32⟩
  | 13 => ⟨S_, .f32⟩
  | 14 => ⟨S2048, .f32⟩
  | 15 => ⟨S2048, .f32⟩
  | 16 => ⟨S2048x1, .f32⟩
  | 17 => ⟨S2048x2048, .f32⟩
  | 18 => ⟨S2048x2048, .f32⟩
  | 19 => ⟨S2048x2048, .f32⟩
  | 20 => ⟨S_, .f32⟩
  | 21 => ⟨S2048, .f32⟩
  | 22 => ⟨S2048x1, .f32⟩
  | 23 => ⟨S2048x2048, .f32⟩
  | 24 => ⟨S2048x2048, .f32⟩
  | 25 => ⟨S2048x2048, .f32⟩
  | 26 => ⟨S2048x8, .f32⟩
  | 27 => ⟨S_, .f32⟩
  | 28 => ⟨S2048x8, .f32⟩
  | 29 => ⟨S2048x8, .i1⟩
  | 30 => ⟨S_, .f32⟩
  | 31 => ⟨S2048x8, .f32⟩
  | 32 => ⟨S2048x8, .i1⟩
  | 33 => ⟨S_, .f32⟩
  | 34 => ⟨S_, .f32⟩
  | 35 => ⟨S2048x8, .f32⟩
  | 36 => ⟨S2048x8, .f32⟩
  | 37 => ⟨S2048x8, .f32⟩
  | 38 => ⟨S_, .f32⟩
  | 39 => ⟨S2048x8, .f32⟩
  | 40 => ⟨S2048x8, .f32⟩
  | 41 => ⟨S2048x8, .f32⟩
  | 42 => ⟨S2048x2048, .f32⟩
  | 43 => ⟨S2048x8, .f32⟩
  | 44 => ⟨S2048x8, .f32⟩
  | 45 => ⟨S8x1, .f32⟩
  | 46 => ⟨S2048x1, .f32⟩
  | 47 => ⟨S8x1, .f32⟩
  | 48 => ⟨S2048x1, .f32⟩
  | 49 => ⟨S1x2048, .f32⟩
  | 50 => ⟨S2048x2048, .f32⟩
  | 51 => ⟨S2048x2048, .f32⟩
  | 52 => ⟨S2048x2048, .f32⟩
  | 53 => ⟨S_, .f32⟩
  | 54 => ⟨S_, .f32⟩
  | 55 => ⟨S2048x2048, .f32⟩
  | 56 => ⟨S2048x2048, .i1⟩
  | 57 => ⟨S_, .f32⟩
  | 58 => ⟨S2048x2048, .f32⟩
  | 59 => ⟨S2048x2048, .f32⟩
  | 60 => ⟨S2048x2048, .f32⟩
  | 61 => ⟨S_, .f32⟩
  | 62 => ⟨S_, .f32⟩
  | 63 => ⟨S2048x1, .f32⟩
  | 64 => ⟨S2048x1, .f32⟩
  | 65 => ⟨S_, .f32⟩
  | 66 => ⟨S_, .f32⟩
  | 67 => ⟨S_, .f32⟩
  | 68 => ⟨S_, .f32⟩
  | 69 => ⟨S_, .f32⟩
  | 70 => ⟨S2048x1, .f32⟩
  | 71 => ⟨S2048x1, .f32⟩
  | 72 => ⟨S_, .f32⟩
  | 73 => ⟨S_, .f32⟩
  | 74 => ⟨S2048x1, .f32⟩
  | 75 => ⟨S2048x1, .f32⟩
  | 76 => ⟨S_, .f32⟩
  | 77 => ⟨S2048x2048, .f32⟩
  | 78 => ⟨S2048x2048, .i1⟩
  | 79 => ⟨S2048x2048, .f32⟩
  | 80 => ⟨S2048x2048, .f32⟩
  | 81 => ⟨S_, .f32⟩
  | 82 => ⟨S_, .f32⟩
  | 83 => ⟨S2048x2048, .f32⟩
  | 84 => ⟨S2048x2048, .f32⟩
  | 85 => ⟨S_, .f32⟩
  | 86 => ⟨S2048, .f32⟩
  | 87 => ⟨S_, .f32⟩
  | 88 => ⟨S2048, .f32⟩
  | 89 => ⟨S2048, .f32⟩
  | 90 => ⟨S2048x1, .f32⟩
  | 91 => ⟨S2048x2048, .f32⟩
  | 92 => ⟨S2048x2048, .f32⟩
  | 93 => ⟨S2048x2048, .f32⟩
  | 94 => ⟨S_, .f32⟩
  | 95 => ⟨S2048, .f32⟩
  | 96 => ⟨S2048x1, .f32⟩
  | 97 => ⟨S2048x2048, .f32⟩
  | 98 => ⟨S2048x2048, .f32⟩
  | 99 => ⟨S2048x2048, .f32⟩
  | 100 => ⟨S2048x8, .f32⟩
  | 101 => ⟨S_, .f32⟩
  | 102 => ⟨S2048x8, .f32⟩
  | 103 => ⟨S2048x8, .i1⟩
  | 104 => ⟨S_, .f32⟩
  | 105 => ⟨S2048x8, .f32⟩
  | 106 => ⟨S2048x8, .i1⟩
  | 107 => ⟨S_, .f32⟩
  | 108 => ⟨S_, .f32⟩
  | 109 => ⟨S2048x8, .f32⟩
  | 110 => ⟨S2048x8, .f32⟩
  | 111 => ⟨S2048x8, .f32⟩
  | 112 => ⟨S_, .f32⟩
  | 113 => ⟨S2048x8, .f32⟩
  | 114 => ⟨S2048x8, .f32⟩
  | 115 => ⟨S2048x8, .f32⟩
  | 116 => ⟨S16x1, .f32⟩
  | 117 => ⟨S16x1, .f32⟩
  | 118 => ⟨S1x256x8, .f32⟩
  | 119 => ⟨S256x8, .f32⟩
  | 120 => ⟨S2048x256, .f32⟩
  | 121 => ⟨S_, .f32⟩
  | 122 => ⟨S2048, .f32⟩
  | 123 => ⟨S2048, .f32⟩
  | 124 => ⟨S256x2048, .f32⟩
  | 125 => ⟨S2048x2048, .f32⟩
  | 126 => ⟨S2048x1, .f32⟩
  | 127 => ⟨S1x2048, .f32⟩
  | _ => ⟨S6144x1x16x16, .f32⟩

abbrev hbmTy0_10 (i : Nat) : BufTy := match i % 128 with
  | 0 => ⟨S2048x2048, .f32⟩
  | 1 => ⟨S2048x2048, .f32⟩
  | 2 => ⟨S2048x2048, .f32⟩
  | 3 => ⟨S2048x2048, .f32⟩
  | 4 => ⟨S2048x2048, .i32⟩
  | 5 => ⟨S2048x2048, .i32⟩
  | 6 => ⟨S_, .i32⟩
  | 7 => ⟨S2048x2048, .i32⟩
  | 8 => ⟨S2048x2048, .i32⟩
  | 9 => ⟨S2048x2048, .i1⟩
  | 10 => ⟨S2048x2048, .f32⟩
  | 11 => ⟨S_, .f32⟩
  | 12 => ⟨S2048x2048, .f32⟩
  | 13 => ⟨S2048x2048, .f32⟩
  | 14 => ⟨S_, .f32⟩
  | 15 => ⟨S2048x2048, .f32⟩
  | 16 => ⟨S2048x2048, .i1⟩
  | 17 => ⟨S_, .f32⟩
  | 18 => ⟨S_, .f32⟩
  | 19 => ⟨S2048x2048, .f32⟩
  | 20 => ⟨S2048x2048, .f32⟩
  | 21 => ⟨S2048x2048, .f32⟩
  | 22 => ⟨S2048x2048, .f32⟩
  | 23 => ⟨S2048x2048, .f32⟩
  | 24 => ⟨S_, .f32⟩
  | 25 => ⟨S2048x2048, .f32⟩
  | 26 => ⟨S2048x2048, .i1⟩
  | 27 => ⟨S2048x2048, .f32⟩
  | 28 => ⟨S2048x2048, .f32⟩
  | 29 => ⟨S2048x2048, .f32⟩
  | 30 => ⟨S_, .f32⟩
  | 31 => ⟨S2048, .f32⟩
  | 32 => ⟨S2048x1, .f32⟩
  | 33 => ⟨S2048x2048, .f32⟩
  | 34 => ⟨S2048x2048, .f32⟩
  | 35 => ⟨S_, .f32⟩
  | 36 => ⟨S2048, .f32⟩
  | 37 => ⟨S2048x1, .f32⟩
  | 38 => ⟨S2048x8, .f32⟩
  | 39 => ⟨S2048x8, .f32⟩
  | 40 => ⟨S2048x8, .f32⟩
  | 41 => ⟨S8x1, .f32⟩
  | 42 => ⟨S2048x1, .f32⟩
  | 43 => ⟨S8x1, .f32⟩
  | 44 => ⟨S2048x1, .f32⟩
  | 45 => ⟨S1x2048, .f32⟩
  | 46 => ⟨S2048x2048, .f32⟩
  | 47 => ⟨S2048x2048, .f32⟩
  | 48 => ⟨S2048x2048, .f32⟩
  | 49 => ⟨S_, .f32⟩
  | 50 => ⟨S_, .f32⟩
  | 51 => ⟨S2048x2048, .f32⟩
  | 52 => ⟨S2048x2048, .i1⟩
  | 53 => ⟨S_, .f32⟩
  | 54 => ⟨S2048x2048, .f32⟩
  | 55 => ⟨S2048x2048, .f32⟩
  | 56 => ⟨S2048x2048, .f32⟩
  | 57 => ⟨S_, .f32⟩
  | 58 => ⟨S_, .f32⟩
  | 59 => ⟨S2048x1, .f32⟩
  | 60 => ⟨S2048x1, .f32⟩
  | 61 => ⟨S_, .f32⟩
  | 62 => ⟨S_, .f32⟩
  | 63 => ⟨S_, .f32⟩
  | 64 => ⟨S_, .f32⟩
  | 65 => ⟨S_, .f32⟩
  | 66 => ⟨S2048x1, .f32⟩
  | 67 => ⟨S2048x1, .f32⟩
  | 68 => ⟨S_, .f32⟩
  | 69 => ⟨S_, .f32⟩
  | 70 => ⟨S2048x1, .f32⟩
  | 71 => ⟨S2048x1, .f32⟩
  | 72 => ⟨S_, .f32⟩
  | 73 => ⟨S2048x2048, .f32⟩
  | 74 => ⟨S2048x2048, .i1⟩
  | 75 => ⟨S2048x2048, .f32⟩
  | 76 => ⟨S2048x2048, .f32⟩
  | 77 => ⟨S_, .f32⟩
  | 78 => ⟨S_, .f32⟩
  | 79 => ⟨S2048x2048, .f32⟩
  | 80 => ⟨S2048x2048, .f32⟩
  | 81 => ⟨S_, .f32⟩
  | 82 => ⟨S2048, .f32⟩
  | 83 => ⟨S_, .f32⟩
  | 84 => ⟨S2048, .f32⟩
  | 85 => ⟨S2048, .f32⟩
  | 86 => ⟨S2048x1, .f32⟩
  | 87 => ⟨S2048x2048, .f32⟩
  | 88 => ⟨S2048x2048, .f32⟩
  | 89 => ⟨S2048x2048, .f32⟩
  | 90 => ⟨S_, .f32⟩
  | 91 => ⟨S2048, .f32⟩
  | 92 => ⟨S2048x1, .f32⟩
  | 93 => ⟨S2048x2048, .f32⟩
  | 94 => ⟨S2048x2048, .f32⟩
  | 95 => ⟨S2048x2048, .f32⟩
  | 96 => ⟨S2048x8, .f32⟩
  | 97 => ⟨S_, .f32⟩
  | 98 => ⟨S2048x8, .f32⟩
  | 99 => ⟨S2048x8, .i1⟩
  | 100 => ⟨S_, .f32⟩
  | 101 => ⟨S2048x8, .f32⟩
  | 102 => ⟨S2048x8, .i1⟩
  | 103 => ⟨S_, .f32⟩
  | 104 => ⟨S_, .f32⟩
  | 105 => ⟨S2048x8, .f32⟩
  | 106 => ⟨S2048x8, .f32⟩
  | 107 => ⟨S2048x8, .f32⟩
  | 108 => ⟨S_, .f32⟩
  | 109 => ⟨S2048x8, .f32⟩
  | 110 => ⟨S2048x8, .f32⟩
  | 111 => ⟨S2048x8, .f32⟩
  | 112 => ⟨S2048x2048, .f32⟩
  | 113 => ⟨S2048x8, .f32⟩
  | 114 => ⟨S2048x8, .f32⟩
  | 115 => ⟨S8x1, .f32⟩
  | 116 => ⟨S2048x1, .f32⟩
  | 117 => ⟨S8x1, .f32⟩
  | 118 => ⟨S2048x1, .f32⟩
  | 119 => ⟨S1x2048, .f32⟩
  | 120 => ⟨S2048x2048, .f32⟩
  | 121 => ⟨S2048x2048, .f32⟩
  | 122 => ⟨S2048x2048, .f32⟩
  | 123 => ⟨S_, .f32⟩
  | 124 => ⟨S_, .f32⟩
  | 125 => ⟨S2048x2048, .f32⟩
  | 126 => ⟨S2048x2048, .i1⟩
  | 127 => ⟨S_, .f32⟩
  | _ => ⟨S6144x1x16x16, .f32⟩

abbrev hbmTy0_11 (i : Nat) : BufTy := match i % 128 with
  | 0 => ⟨S2048x2048, .f32⟩
  | 1 => ⟨S2048x2048, .f32⟩
  | 2 => ⟨S2048x2048, .f32⟩
  | 3 => ⟨S_, .f32⟩
  | 4 => ⟨S_, .f32⟩
  | 5 => ⟨S2048x1, .f32⟩
  | 6 => ⟨S2048x1, .f32⟩
  | 7 => ⟨S_, .f32⟩
  | 8 => ⟨S_, .f32⟩
  | 9 => ⟨S_, .f32⟩
  | 10 => ⟨S_, .f32⟩
  | 11 => ⟨S_, .f32⟩
  | 12 => ⟨S2048x1, .f32⟩
  | 13 => ⟨S2048x1, .f32⟩
  | 14 => ⟨S_, .f32⟩
  | 15 => ⟨S_, .f32⟩
  | 16 => ⟨S2048x1, .f32⟩
  | 17 => ⟨S2048x1, .f32⟩
  | 18 => ⟨S_, .f32⟩
  | 19 => ⟨S2048x2048, .f32⟩
  | 20 => ⟨S2048x2048, .i1⟩
  | 21 => ⟨S2048x2048, .f32⟩
  | 22 => ⟨S2048x2048, .f32⟩
  | 23 => ⟨S_, .f32⟩
  | 24 => ⟨S_, .f32⟩
  | 25 => ⟨S2048x2048, .f32⟩
  | 26 => ⟨S2048x2048, .f32⟩
  | 27 => ⟨S_, .f32⟩
  | 28 => ⟨S2048, .f32⟩
  | 29 => ⟨S_, .f32⟩
  | 30 => ⟨S2048, .f32⟩
  | 31 => ⟨S2048, .f32⟩
  | 32 => ⟨S2048x1, .f32⟩
  | 33 => ⟨S2048x2048, .f32⟩
  | 34 => ⟨S2048x2048, .f32⟩
  | 35 => ⟨S2048x2048, .f32⟩
  | 36 => ⟨S_, .f32⟩
  | 37 => ⟨S2048, .f32⟩
  | 38 => ⟨S2048x1, .f32⟩
  | 39 => ⟨S2048x2048, .f32⟩
  | 40 => ⟨S2048x2048, .f32⟩
  | 41 => ⟨S2048x2048, .f32⟩
  | 42 => ⟨S2048x8, .f32⟩
  | 43 => ⟨S_, .f32⟩
  | 44 => ⟨S2048x8, .f32⟩
  | 45 => ⟨S2048x8, .i1⟩
  | 46 => ⟨S_, .f32⟩
  | 47 => ⟨S2048x8, .f32⟩
  | 48 => ⟨S2048x8, .i1⟩
  | 49 => ⟨S_, .f32⟩
  | 50 => ⟨S_, .f32⟩
  | 51 => ⟨S2048x8, .f32⟩
  | 52 => ⟨S2048x8, .f32⟩
  | 53 => ⟨S2048x8, .f32⟩
  | 54 => ⟨S_, .f32⟩
  | 55 => ⟨S2048x8, .f32⟩
  | 56 => ⟨S2048x8, .f32⟩
  | 57 => ⟨S2048x8, .f32⟩
  | 58 => ⟨S16x1, .f32⟩
  | 59 => ⟨S16x1, .f32⟩
  | 60 => ⟨S1x256x8, .f32⟩
  | 61 => ⟨S256x8, .f32⟩
  | 62 => ⟨S2048x256, .f32⟩
  | 63 => ⟨S_, .f32⟩
  | 64 => ⟨S2048, .f32⟩
  | 65 => ⟨S2048, .f32⟩
  | 66 => ⟨S256x2048, .f32⟩
  | 67 => ⟨S2048x2048, .f32⟩
  | 68 => ⟨S2048x1, .f32⟩
  | 69 => ⟨S1x2048, .f32⟩
  | 70 => ⟨S2048x2048, .f32⟩
  | 71 => ⟨S2048x2048, .f32⟩
  | 72 => ⟨S2048x2048, .f32⟩
  | 73 => ⟨S2048x2048, .f32⟩
  | 74 => ⟨S2048x2048, .i32⟩
  | 75 => ⟨S2048x2048, .i32⟩
  | 76 => ⟨S_, .i32⟩
  | 77 => ⟨S2048x2048, .i32⟩
  | 78 => ⟨S2048x2048, .i32⟩
  | 79 => ⟨S2048x2048, .i1⟩
  | 80 => ⟨S2048x2048, .f32⟩
  | 81 => ⟨S_, .f32⟩
  | 82 => ⟨S2048x2048, .f32⟩
  | 83 => ⟨S2048x2048, .f32⟩
  | 84 => ⟨S_, .f32⟩
  | 85 => ⟨S2048x2048, .f32⟩
  | 86 => ⟨S2048x2048, .i1⟩
  | 87 => ⟨S_, .f32⟩
  | 88 => ⟨S_, .f32⟩
  | 89 => ⟨S2048x2048, .f32⟩
  | 90 => ⟨S2048x2048, .f32⟩
  | 91 => ⟨S2048x2048, .f32⟩
  | 92 => ⟨S2048x2048, .f32⟩
  | 93 => ⟨S2048x2048, .f32⟩
  | 94 => ⟨S_, .f32⟩
  | 95 => ⟨S2048x2048, .f32⟩
  | 96 => ⟨S2048x2048, .i1⟩
  | 97 => ⟨S2048x2048, .f32⟩
  | 98 => ⟨S2048x2048, .f32⟩
  | 99 => ⟨S2048x2048, .f32⟩
  | 100 => ⟨S_, .f32⟩
  | 101 => ⟨S2048, .f32⟩
  | 102 => ⟨S2048x1, .f32⟩
  | 103 => ⟨S2048x2048, .f32⟩
  | 104 => ⟨S2048x2048, .f32⟩
  | 105 => ⟨S_, .f32⟩
  | 106 => ⟨S2048, .f32⟩
  | 107 => ⟨S2048x1, .f32⟩
  | 108 => ⟨S2048x8, .f32⟩
  | 109 => ⟨S2048x8, .f32⟩
  | 110 => ⟨S2048x8, .f32⟩
  | 111 => ⟨S8x1, .f32⟩
  | 112 => ⟨S2048x1, .f32⟩
  | 113 => ⟨S8x1, .f32⟩
  | 114 => ⟨S2048x1, .f32⟩
  | 115 => ⟨S1x2048, .f32⟩
  | 116 => ⟨S2048x2048, .f32⟩
  | 117 => ⟨S2048x2048, .f32⟩
  | 118 => ⟨S2048x2048, .f32⟩
  | 119 => ⟨S_, .f32⟩
  | 120 => ⟨S_, .f32⟩
  | 121 => ⟨S2048x2048, .f32⟩
  | 122 => ⟨S2048x2048, .i1⟩
  | 123 => ⟨S_, .f32⟩
  | 124 => ⟨S2048x2048, .f32⟩
  | 125 => ⟨S2048x2048, .f32⟩
  | 126 => ⟨S2048x2048, .f32⟩
  | 127 => ⟨S_, .f32⟩
  | _ => ⟨S6144x1x16x16, .f32⟩

abbrev hbmTy0_12 (i : Nat) : BufTy := match i % 128 with
  | 0 => ⟨S_, .f32⟩
  | 1 => ⟨S2048x1, .f32⟩
  | 2 => ⟨S2048x1, .f32⟩
  | 3 => ⟨S_, .f32⟩
  | 4 => ⟨S_, .f32⟩
  | 5 => ⟨S_, .f32⟩
  | 6 => ⟨S_, .f32⟩
  | 7 => ⟨S_, .f32⟩
  | 8 => ⟨S2048x1, .f32⟩
  | 9 => ⟨S2048x1, .f32⟩
  | 10 => ⟨S_, .f32⟩
  | 11 => ⟨S_, .f32⟩
  | 12 => ⟨S2048x1, .f32⟩
  | 13 => ⟨S2048x1, .f32⟩
  | 14 => ⟨S_, .f32⟩
  | 15 => ⟨S2048x2048, .f32⟩
  | 16 => ⟨S2048x2048, .i1⟩
  | 17 => ⟨S2048x2048, .f32⟩
  | 18 => ⟨S2048x2048, .f32⟩
  | 19 => ⟨S_, .f32⟩
  | 20 => ⟨S_, .f32⟩
  | 21 => ⟨S2048x2048, .f32⟩
  | 22 => ⟨S2048x2048, .f32⟩
  | 23 => ⟨S_, .f32⟩
  | 24 => ⟨S2048, .f32⟩
  | 25 => ⟨S_, .f32⟩
  | 26 => ⟨S2048, .f32⟩
  | 27 => ⟨S2048, .f32⟩
  | 28 => ⟨S2048x1, .f32⟩
  | 29 => ⟨S2048x2048, .f32⟩
  | 30 => ⟨S2048x2048, .f32⟩
  | 31 => ⟨S2048x2048, .f32⟩
  | 32 => ⟨S_, .f32⟩
  | 33 => ⟨S2048, .f32⟩
  | 34 => ⟨S2048x1, .f32⟩
  | 35 => ⟨S2048x2048, .f32⟩
  | 36 => ⟨S2048x2048, .f32⟩
  | 37 => ⟨S2048x2048, .f32⟩
  | 38 => ⟨S2048x8, .f32⟩
  | 39 => ⟨S_, .f32⟩
  | 40 => ⟨S2048x8, .f32⟩
  | 41 => ⟨S2048x8, .i1⟩
  | 42 => ⟨S_, .f32⟩
  | 43 => ⟨S2048x8, .f32⟩
  | 44 => ⟨S2048x8, .i1⟩
  | 45 => ⟨S_, .f32⟩
  | 46 => ⟨S_, .f32⟩
  | 47 => ⟨S2048x8, .f32⟩
  | 48 => ⟨S2048x8, .f32⟩
  | 49 => ⟨S2048x8, .f32⟩
  | 50 => ⟨S_, .f32⟩
  | 51 => ⟨S2048x8, .f32⟩
  | 52 => ⟨S2048x8, .f32⟩
  | 53 => ⟨S2048x8, .f32⟩
  | 54 => ⟨S2048x2048, .f32⟩
  | 55 => ⟨S2048x8, .f32⟩
  | 56 => ⟨S2048x8, .f32⟩
  | 57 => ⟨S8x1, .f32⟩
  | 58 => ⟨S2048x1, .f32⟩
  | 59 => ⟨S8x1, .f32⟩
  | 60 => ⟨S2048x1, .f32⟩
  | 61 => ⟨S1x2048, .f32⟩
  | 62 => ⟨S2048x2048, .f32⟩
  | 63 => ⟨S2048x2048, .f32⟩
  | 64 => ⟨S2048x2048, .f32⟩
  | 65 => ⟨S_, .f32⟩
  | 66 => ⟨S_, .f32⟩
  | 67 => ⟨S2048x2048, .f32⟩
  | 68 => ⟨S2048x2048, .i1⟩
  | 69 => ⟨S_, .f32⟩
  | 70 => ⟨S2048x2048, .f32⟩
  | 71 => ⟨S2048x2048, .f32⟩
  | 72 => ⟨S2048x2048, .f32⟩
  | 73 => ⟨S_, .f32⟩
  | 74 => ⟨S_, .f32⟩
  | 75 => ⟨S2048x1, .f32⟩
  | 76 => ⟨S2048x1, .f32⟩
  | 77 => ⟨S_, .f32⟩
  | 78 => ⟨S_, .f32⟩
  | 79 => ⟨S_, .f32⟩
  | 80 => ⟨S_, .f32⟩
  | 81 => ⟨S_, .f32⟩
  | 82 => ⟨S2048x1, .f32⟩
  | 83 => ⟨S2048x1, .f32⟩
  | 84 => ⟨S_, .f32⟩
  | 85 => ⟨S_, .f32⟩
  | 86 => ⟨S2048x1, .f32⟩
  | 87 => ⟨S2048x1, .f32⟩
  | 88 => ⟨S_, .f32⟩
  | 89 => ⟨S2048x2048, .f32⟩
  | 90 => ⟨S2048x2048, .i1⟩
  | 91 => ⟨S2048x2048, .f32⟩
  | 92 => ⟨S2048x2048, .f32⟩
  | 93 => ⟨S_, .f32⟩
  | 94 => ⟨S_, .f32⟩
  | 95 => ⟨S2048x2048, .f32⟩
  | 96 => ⟨S2048x2048, .f32⟩
  | 97 => ⟨S_, .f32⟩
  | 98 => ⟨S2048, .f32⟩
  | 99 => ⟨S_, .f32⟩
  | 100 => ⟨S2048, .f32⟩
  | 101 => ⟨S2048, .f32⟩
  | 102 => ⟨S2048x1, .f32⟩
  | 103 => ⟨S2048x2048, .f32⟩
  | 104 => ⟨S2048x2048, .f32⟩
  | 105 => ⟨S2048x2048, .f32⟩
  | 106 => ⟨S_, .f32⟩
  | 107 => ⟨S2048, .f32⟩
  | 108 => ⟨S2048x1, .f32⟩
  | 109 => ⟨S2048x2048, .f32⟩
  | 110 => ⟨S2048x2048, .f32⟩
  | 111 => ⟨S2048x2048, .f32⟩
  | 112 => ⟨S2048x8, .f32⟩
  | 113 => ⟨S_, .f32⟩
  | 114 => ⟨S2048x8, .f32⟩
  | 115 => ⟨S2048x8, .i1⟩
  | 116 => ⟨S_, .f32⟩
  | 117 => ⟨S2048x8, .f32⟩
  | 118 => ⟨S2048x8, .i1⟩
  | 119 => ⟨S_, .f32⟩
  | 120 => ⟨S_, .f32⟩
  | 121 => ⟨S2048x8, .f32⟩
  | 122 => ⟨S2048x8, .f32⟩
  | 123 => ⟨S2048x8, .f32⟩
  | 124 => ⟨S_, .f32⟩
  | 125 => ⟨S2048x8, .f32⟩
  | 126 => ⟨S2048x8, .f32⟩
  | 127 => ⟨S2048x8, .f32⟩
  | _ => ⟨S6144x1x16x16, .f32⟩

abbrev hbmTy0_13 (i : Nat) : BufTy := match i % 128 with
  | 0 => ⟨S16x1, .f32⟩
  | 1 => ⟨S16x1, .f32⟩
  | 2 => ⟨S1x256x8, .f32⟩
  | 3 => ⟨S256x8, .f32⟩
  | 4 => ⟨S2048x256, .f32⟩
  | 5 => ⟨S_, .f32⟩
  | 6 => ⟨S2048, .f32⟩
  | 7 => ⟨S2048, .f32⟩
  | 8 => ⟨S256x2048, .f32⟩
  | 9 => ⟨S2048x2048, .f32⟩
  | 10 => ⟨S2048x1, .f32⟩
  | 11 => ⟨S1x2048, .f32⟩
  | 12 => ⟨S2048x2048, .f32⟩
  | 13 => ⟨S2048x2048, .f32⟩
  | 14 => ⟨S2048x2048, .f32⟩
  | 15 => ⟨S2048x2048, .f32⟩
  | 16 => ⟨S2048x2048, .i32⟩
  | 17 => ⟨S2048x2048, .i32⟩
  | 18 => ⟨S_, .i32⟩
  | 19 => ⟨S2048x2048, .i32⟩
  | 20 => ⟨S2048x2048, .i32⟩
  | 21 => ⟨S2048x2048, .i1⟩
  | 22 => ⟨S2048x2048, .f32⟩
  | 23 => ⟨S_, .f32⟩
  | 24 => ⟨S2048x2048, .f32⟩
  | 25 => ⟨S2048x2048, .f32⟩
  | 26 => ⟨S_, .f32⟩
  | 27 => ⟨S2048x2048, .f32⟩
  | 28 => ⟨S2048x2048, .i1⟩
  | 29 => ⟨S_, .f32⟩
  | 30 => ⟨S_, .f32⟩
  | 31 => ⟨S2048x2048, .f32⟩
  | 32 => ⟨S2048x2048, .f32⟩
  | 33 => ⟨S2048x2048, .f32⟩
  | 34 => ⟨S2048x2048, .f32⟩
  | 35 => ⟨S2048x2048, .f32⟩
  | 36 => ⟨S_, .f32⟩
  | 37 => ⟨S2048x2048, .f32⟩
  | 38 => ⟨S2048x2048, .i1⟩
  | 39 => ⟨S2048x2048, .f32⟩
  | 40 => ⟨S2048x2048, .f32⟩
  | 41 => ⟨S2048x2048, .f32⟩
  | 42 => ⟨S_, .f32⟩
  | 43 => ⟨S2048, .f32⟩
  | 44 => ⟨S2048x1, .f32⟩
  | 45 => ⟨S2048x2048, .f32⟩
  | 46 => ⟨S2048x2048, .f32⟩
  | 47 => ⟨S_, .f32⟩
  | 48 => ⟨S2048, .f32⟩
  | 49 => ⟨S2048x1, .f32⟩
  | 50 => ⟨S2048x8, .f32⟩
  | 51 => ⟨S2048x8, .f32⟩
  | 52 => ⟨S2048x8, .f32⟩
  | 53 => ⟨S8x1, .f32⟩
  | 54 => ⟨S2048x1, .f32⟩
  | 55 => ⟨S8x1, .f32⟩
  | 56 => ⟨S2048x1, .f32⟩
  | 57 => ⟨S1x2048, .f32⟩
  | 58 => ⟨S2048x2048, .f32⟩
  | 59 => ⟨S2048x2048, .f32⟩
  | 60 => ⟨S2048x2048, .f32⟩
  | 61 => ⟨S_, .f32⟩
  | 62 => ⟨S_, .f32⟩
  | 63 => ⟨S2048x2048, .f32⟩
  | 64 => ⟨S2048x2048, .i1⟩
  | 65 => ⟨S_, .f32⟩
  | 66 => ⟨S2048x2048, .f32⟩
  | 67 => ⟨S2048x2048, .f32⟩
  | 68 => ⟨S2048x2048, .f32⟩
  | 69 => ⟨S_, .f32⟩
  | 70 => ⟨S_, .f32⟩
  | 71 => ⟨S2048x1, .f32⟩
  | 72 => ⟨S2048x1, .f32⟩
  | 73 => ⟨S_, .f32⟩
  | 74 => ⟨S_, .f32⟩
  | 75 => ⟨S_, .f32⟩
  | 76 => ⟨S_, .f32⟩
  | 77 => ⟨S_, .f32⟩
  | 78 => ⟨S2048x1, .f32⟩
  | 79 => ⟨S2048x1, .f32⟩
  | 80 => ⟨S_, .f32⟩
  | 81 => ⟨S_, .f32⟩
  | 82 => ⟨S2048x1, .f32⟩
  | 83 => ⟨S2048x1, .f32⟩
  | 84 => ⟨S_, .f32⟩
  | 85 => ⟨S2048x2048, .f32⟩
  | 86 => ⟨S2048x2048, .i1⟩
  | 87 => ⟨S2048x2048, .f32⟩
  | 88 => ⟨S2048x2048, .f32⟩
  | 89 => ⟨S_, .f32⟩
  | 90 => ⟨S_, .f32⟩
  | 91 => ⟨S2048x2048, .f32⟩
  | 92 => ⟨S2048x2048, .f32⟩
  | 93 => ⟨S_, .f32⟩
  | 94 => ⟨S2048, .f32⟩
  | 95 => ⟨S_, .f32⟩
  | 96 => ⟨S2048, .f32⟩
  | 97 => ⟨S2048, .f32⟩
  | 98 => ⟨S2048x1, .f32⟩
  | 99 => ⟨S2048x2048, .f32⟩
  | 100 => ⟨S2048x2048, .f32⟩
  | 101 => ⟨S2048x2048, .f32⟩
  | 102 => ⟨S_, .f32⟩
  | 103 => ⟨S2048, .f32⟩
  | 104 => ⟨S2048x1, .f32⟩
  | 105 => ⟨S2048x2048, .f32⟩
  | 106 => ⟨S2048x2048, .f32⟩
  | 107 => ⟨S2048x2048, .f32⟩
  | 108 => ⟨S2048x8, .f32⟩
  | 109 => ⟨S_, .f32⟩
  | 110 => ⟨S2048x8, .f32⟩
  | 111 => ⟨S2048x8, .i1⟩
  | 112 => ⟨S_, .f32⟩
  | 113 => ⟨S2048x8, .f32⟩
  | 114 => ⟨S2048x8, .i1⟩
  | 115 => ⟨S_, .f32⟩
  | 116 => ⟨S_, .f32⟩
  | 117 => ⟨S2048x8, .f32⟩
  | 118 => ⟨S2048x8, .f32⟩
  | 119 => ⟨S2048x8, .f32⟩
  | 120 => ⟨S_, .f32⟩
  | 121 => ⟨S2048x8, .f32⟩
  | 122 => ⟨S2048x8, .f32⟩
  | 123 => ⟨S2048x8, .f32⟩
  | 124 => ⟨S2048x2048, .f32⟩
  | 125 => ⟨S2048x8, .f32⟩
  | 126 => ⟨S2048x8, .f32⟩
  | 127 => ⟨S8x1, .f32⟩
  | _ => ⟨S6144x1x16x16, .f32⟩

abbrev hbmTy0_14 (i : Nat) : BufTy := match i % 128 with
  | 0 => ⟨S2048x1, .f32⟩
  | 1 => ⟨S8x1, .f32⟩
  | 2 => ⟨S2048x1, .f32⟩
  | 3 => ⟨S1x2048, .f32⟩
  | 4 => ⟨S2048x2048, .f32⟩
  | 5 => ⟨S2048x2048, .f32⟩
  | 6 => ⟨S2048x2048, .f32⟩
  | 7 => ⟨S_, .f32⟩
  | 8 => ⟨S_, .f32⟩
  | 9 => ⟨S2048x2048, .f32⟩
  | 10 => ⟨S2048x2048, .i1⟩
  | 11 => ⟨S_, .f32⟩
  | 12 => ⟨S2048x2048, .f32⟩
  | 13 => ⟨S2048x2048, .f32⟩
  | 14 => ⟨S2048x2048, .f32⟩
  | 15 => ⟨S_, .f32⟩
  | 16 => ⟨S_, .f32⟩
  | 17 => ⟨S2048x1, .f32⟩
  | 18 => ⟨S2048x1, .f32⟩
  | 19 => ⟨S_, .f32⟩
  | 20 => ⟨S_, .f32⟩
  | 21 => ⟨S_, .f32⟩
  | 22 => ⟨S_, .f32⟩
  | 23 => ⟨S_, .f32⟩
  | 24 => ⟨S2048x1, .f32⟩
  | 25 => ⟨S2048x1, .f32⟩
  | 26 => ⟨S_, .f32⟩
  | 27 => ⟨S_, .f32⟩
  | 28 => ⟨S2048x1, .f32⟩
  | 29 => ⟨S2048x1, .f32⟩
  | 30 => ⟨S_, .f32⟩
  | 31 => ⟨S2048x2048, .f32⟩
  | 32 => ⟨S2048x2048, .i1⟩
  | 33 => ⟨S2048x2048, .f32⟩
  | 34 => ⟨S2048x2048, .f32⟩
  | 35 => ⟨S_, .f32⟩
  | 36 => ⟨S_, .f32⟩
  | 37 => ⟨S2048x2048, .f32⟩
  | 38 => ⟨S2048x2048, .f32⟩
  | 39 => ⟨S_, .f32⟩
  | 40 => ⟨S2048, .f32⟩
  | 41 => ⟨S_, .f32⟩
  | 42 => ⟨S2048, .f32⟩
  | 43 => ⟨S2048, .f32⟩
  | 44 => ⟨S2048x1, .f32⟩
  | 45 => ⟨S2048x2048, .f32⟩
  | 46 => ⟨S2048x2048, .f32⟩
  | 47 => ⟨S2048x2048, .f32⟩
  | 48 => ⟨S_, .f32⟩
  | 49 => ⟨S2048, .f32⟩
  | 50 => ⟨S2048x1, .f32⟩
  | 51 => ⟨S2048x2048, .f32⟩
  | 52 => ⟨S2048x2048, .f32⟩
  | 53 => ⟨S2048x2048, .f32⟩
  | 54 => ⟨S2048x8, .f32⟩
  | 55 => ⟨S_, .f32⟩
  | 56 => ⟨S2048x8, .f32⟩
  | 57 => ⟨S2048x8, .i1⟩
  | 58 => ⟨S_, .f32⟩
  | 59 => ⟨S2048x8, .f32⟩
  | 60 => ⟨S2048x8, .i1⟩
  | 61 => ⟨S_, .f32⟩
  | 62 => ⟨S_, .f32⟩
  | 63 => ⟨S2048x8, .f32⟩
  | 64 => ⟨S2048x8, .f32⟩
  | 65 => ⟨S2048x8, .f32⟩
  | 66 => ⟨S_, .f32⟩
  | 67 => ⟨S2048x8, .f32⟩
  | 68 => ⟨S2048x8, .f32⟩
  | 69 => ⟨S2048x8, .f32⟩
  | 70 => ⟨S2048x32, .f32⟩
  | 71 => ⟨S1x16x16, .f32⟩
  | 72 => ⟨S16x16, .f32⟩
  | 73 => ⟨S16x8, .f32⟩
  | 74 => ⟨S1x16x16, .f32⟩
  | 75 => ⟨S16x16, .f32⟩
  | 76 => ⟨S16x8, .f32⟩
  | 77 => ⟨S16x8, .f32⟩
  | 78 => ⟨S16x8, .f32⟩
  | 79 => ⟨S16x8, .f32⟩
  | 80 => ⟨S_, .f32⟩
  | 81 => ⟨S16x8, .f32⟩
  | 82 => ⟨S16x8, .f32⟩
  | 83 => ⟨S_, .f32⟩
  | 84 => ⟨S16x8, .f32⟩
  | 85 => ⟨S16x8, .f32⟩
  | 86 => ⟨S1x16x16, .f32⟩
  | 87 => ⟨S16x16, .f32⟩
  | 88 => ⟨S16x8, .f32⟩
  | 89 => ⟨S1x16x16, .f32⟩
  | 90 => ⟨S16x16, .f32⟩
  | 91 => ⟨S16x8, .f32⟩
  | 92 => ⟨S16x8, .f32⟩
  | 93 => ⟨S16x8, .f32⟩
  | 94 => ⟨S16x8, .f32⟩
  | 95 => ⟨S_, .f32⟩
  | 96 => ⟨S16x8, .f32⟩
  | 97 => ⟨S16x8, .f32⟩
  | 98 => ⟨S_, .f32⟩
  | 99 => ⟨S16x8, .f32⟩
  | 100 => ⟨S16x8, .f32⟩
  | 101 => ⟨S1x16x16, .f32⟩
  | 102 => ⟨S16x16, .f32⟩
  | 103 => ⟨S16x8, .f32⟩
  | 104 => ⟨S1x16x16, .f32⟩
  | 105 => ⟨S16x16, .f32⟩
  | 106 => ⟨S16x8, .f32⟩
  | 107 => ⟨S16x8, .f32⟩
  | 108 => ⟨S16x8, .f32⟩
  | 109 => ⟨S16x8, .f32⟩
  | 110 => ⟨S_, .f32⟩
  | 111 => ⟨S16x8, .f32⟩
  | 112 => ⟨S16x8, .f32⟩
  | 113 => ⟨S16x8, .f32⟩
  | 114 => ⟨S16x8, .f32⟩
  | 115 => ⟨S16x8, .f32⟩
  | 116 => ⟨S16x1, .f32⟩
  | 117 => ⟨S16x1, .f32⟩
  | 118 => ⟨S1x256x8, .f32⟩
  | 119 => ⟨S256x8, .f32⟩
  | 120 => ⟨S2048x256, .f32⟩
  | 121 => ⟨S_, .f32⟩
  | 122 => ⟨S2048, .f32⟩
  | 123 => ⟨S2048, .f32⟩
  | 124 => ⟨S256x2048, .f32⟩
  | 125 => ⟨S2048x2048, .f32⟩
  | 126 => ⟨S2048x1, .f32⟩
  | 127 => ⟨S1x2048, .f32⟩
  | _ => ⟨S6144x1x16x16, .f32⟩

abbrev hbmTy0_15 (i : Nat) : BufTy := match i % 128 with
  | 0 => ⟨S2048x2048, .f32⟩
  | 1 => ⟨S2048x2048, .f32⟩
  | 2 => ⟨S2048x2048, .f32⟩
  | 3 => ⟨S2048x2048, .f32⟩
  | 4 => ⟨S2048x2048, .i32⟩
  | 5 => ⟨S2048x2048, .i32⟩
  | 6 => ⟨S_, .i32⟩
  | 7 => ⟨S2048x2048, .i32⟩
  | 8 => ⟨S2048x2048, .i32⟩
  | 9 => ⟨S2048x2048, .i1⟩
  | 10 => ⟨S2048x2048, .f32⟩
  | 11 => ⟨S_, .f32⟩
  | 12 => ⟨S2048x2048, .f32⟩
  | 13 => ⟨S2048x2048, .f32⟩
  | 14 => ⟨S_, .f32⟩
  | 15 => ⟨S2048x2048, .f32⟩
  | 16 => ⟨S2048x2048, .i1⟩
  | 17 => ⟨S_, .f32⟩
  | 18 => ⟨S_, .f32⟩
  | 19 => ⟨S2048x2048, .f32⟩
  | 20 => ⟨S2048x2048, .f32⟩
  | 21 => ⟨S2048x2048, .f32⟩
  | 22 => ⟨S2048x2048, .f32⟩
  | 23 => ⟨S2048x2048, .f32⟩
  | 24 => ⟨S_, .f32⟩
  | 25 => ⟨S2048x2048, .f32⟩
  | 26 => ⟨S2048x2048, .i1⟩
  | 27 => ⟨S2048x2048, .f32⟩
  | 28 => ⟨S2048x2048, .f32⟩
  | 29 => ⟨S2048x2048, .f32⟩
  | 30 => ⟨S_, .f32⟩
  | 31 => ⟨S2048, .f32⟩
  | 32 => ⟨S2048x1, .f32⟩
  | 33 => ⟨S2048x2048, .f32⟩
  | 34 => ⟨S2048x2048, .f32⟩
  | 35 => ⟨S_, .f32⟩
  | 36 => ⟨S2048, .f32⟩
  | 37 => ⟨S2048x1, .f32⟩
  | 38 => ⟨S2048x8, .f32⟩
  | 39 => ⟨S2048x8, .f32⟩
  | 40 => ⟨S2048x8, .f32⟩
  | 41 => ⟨S8x1, .f32⟩
  | 42 => ⟨S2048x1, .f32⟩
  | 43 => ⟨S8x1, .f32⟩
  | 44 => ⟨S2048x1, .f32⟩
  | 45 => ⟨S1x2048, .f32⟩
  | 46 => ⟨S2048x2048, .f32⟩
  | 47 => ⟨S2048x2048, .f32⟩
  | 48 => ⟨S2048x2048, .f32⟩
  | 49 => ⟨S_, .f32⟩
  | 50 => ⟨S_, .f32⟩
  | 51 => ⟨S2048x2048, .f32⟩
  | 52 => ⟨S2048x2048, .i1⟩
  | 53 => ⟨S_, .f32⟩
  | 54 => ⟨S2048x2048, .f32⟩
  | 55 => ⟨S2048x2048, .f32⟩
  | 56 => ⟨S2048x2048, .f32⟩
  | 57 => ⟨S_, .f32⟩
  | 58 => ⟨S_, .f32⟩
  | 59 => ⟨S2048x1, .f32⟩
  | 60 => ⟨S2048x1, .f32⟩
  | 61 => ⟨S_, .f32⟩
  | 62 => ⟨S_, .f32⟩
  | 63 => ⟨S_, .f32⟩
  | 64 => ⟨S_, .f32⟩
  | 65 => ⟨S_, .f32⟩
  | 66 => ⟨S2048x1, .f32⟩
  | 67 => ⟨S2048x1, .f32⟩
  | 68 => ⟨S_, .f32⟩
  | 69 => ⟨S_, .f32⟩
  | 70 => ⟨S2048x1, .f32⟩
  | 71 => ⟨S2048x1, .f32⟩
  | 72 => ⟨S_, .f32⟩
  | 73 => ⟨S2048x2048, .f32⟩
  | 74 => ⟨S2048x2048, .i1⟩
  | 75 => ⟨S2048x2048, .f32⟩
  | 76 => ⟨S2048x2048, .f32⟩
  | 77 => ⟨S_, .f32⟩
  | 78 => ⟨S_, .f32⟩
  | 79 => ⟨S2048x2048, .f32⟩
  | 80 => ⟨S2048x2048, .f32⟩
  | 81 => ⟨S_, .f32⟩
  | 82 => ⟨S2048, .f32⟩
  | 83 => ⟨S_, .f32⟩
  | 84 => ⟨S2048, .f32⟩
  | 85 => ⟨S2048, .f32⟩
  | 86 => ⟨S2048x1, .f32⟩
  | 87 => ⟨S2048x2048, .f32⟩
  | 88 => ⟨S2048x2048, .f32⟩
  | 89 => ⟨S2048x2048, .f32⟩
  | 90 => ⟨S_, .f32⟩
  | 91 => ⟨S2048, .f32⟩
  | 92 => ⟨S2048x1, .f32⟩
  | 93 => ⟨S2048x2048, .f32⟩
  | 94 => ⟨S2048x2048, .f32⟩
  | 95 => ⟨S2048x2048, .f32⟩
  | 96 => ⟨S2048x8, .f32⟩
  | 97 => ⟨S_, .f32⟩
  | 98 => ⟨S2048x8, .f32⟩
  | 99 => ⟨S2048x8, .i1⟩
  | 100 => ⟨S_, .f32⟩
  | 101 => ⟨S2048x8, .f32⟩
  | 102 => ⟨S2048x8, .i1⟩
  | 103 => ⟨S_, .f32⟩
  | 104 => ⟨S_, .f32⟩
  | 105 => ⟨S2048x8, .f32⟩
  | 106 => ⟨S2048x8, .f32⟩
  | 107 => ⟨S2048x8, .f32⟩
  | 108 => ⟨S_, .f32⟩
  | 109 => ⟨S2048x8, .f32⟩
  | 110 => ⟨S2048x8, .f32⟩
  | 111 => ⟨S2048x8, .f32⟩
  | 112 => ⟨S2048x2048, .f32⟩
  | 113 => ⟨S2048x8, .f32⟩
  | 114 => ⟨S2048x8, .f32⟩
  | 115 => ⟨S8x1, .f32⟩
  | 116 => ⟨S2048x1, .f32⟩
  | 117 => ⟨S8x1, .f32⟩
  | 118 => ⟨S2048x1, .f32⟩
  | 119 => ⟨S1x2048, .f32⟩
  | 120 => ⟨S2048x2048, .f32⟩
  | 121 => ⟨S2048x2048, .f32⟩
  | 122 => ⟨S2048x2048, .f32⟩
  | 123 => ⟨S_, .f32⟩
  | 124 => ⟨S_, .f32⟩
  | 125 => ⟨S2048x2048, .f32⟩
  | 126 => ⟨S2048x2048, .i1⟩
  | 127 => ⟨S_, .f32⟩
  | _ => ⟨S6144x1x16x16, .f32⟩

abbrev hbmTy0_16 (i : Nat) : BufTy := match i % 128 with
  | 0 => ⟨S2048x2048, .f32⟩
  | 1 => ⟨S2048x2048, .f32⟩
  | 2 => ⟨S2048x2048, .f32⟩
  | 3 => ⟨S_, .f32⟩
  | 4 => ⟨S_, .f32⟩
  | 5 => ⟨S2048x1, .f32⟩
  | 6 => ⟨S2048x1, .f32⟩
  | 7 => ⟨S_, .f32⟩
  | 8 => ⟨S_, .f32⟩
  | 9 => ⟨S_, .f32⟩
  | 10 => ⟨S_, .f32⟩
  | 11 => ⟨S_, .f32⟩
  | 12 => ⟨S2048x1, .f32⟩
  | 13 => ⟨S2048x1, .f32⟩
  | 14 => ⟨S_, .f32⟩
  | 15 => ⟨S_, .f32⟩
  | 16 => ⟨S2048x1, .f32⟩
  | 17 => ⟨S2048x1, .f32⟩
  | 18 => ⟨S_, .f32⟩
  | 19 => ⟨S2048x2048, .f32⟩
  | 20 => ⟨S2048x2048, .i1⟩
  | 21 => ⟨S2048x2048, .f32⟩
  | 22 => ⟨S2048x2048, .f32⟩
  | 23 => ⟨S_, .f32⟩
  | 24 => ⟨S_, .f32⟩
  | 25 => ⟨S2048x2048, .f32⟩
  | 26 => ⟨S2048x2048, .f32⟩
  | 27 => ⟨S_, .f32⟩
  | 28 => ⟨S2048, .f32⟩
  | 29 => ⟨S_, .f32⟩
  | 30 => ⟨S2048, .f32⟩
  | 31 => ⟨S2048, .f32⟩
  | 32 => ⟨S2048x1, .f32⟩
  | 33 => ⟨S2048x2048, .f32⟩
  | 34 => ⟨S2048x2048, .f32⟩
  | 35 => ⟨S2048x2048, .f32⟩
  | 36 => ⟨S_, .f32⟩
  | 37 => ⟨S2048, .f32⟩
  | 38 => ⟨S2048x1, .f32⟩
  | 39 => ⟨S2048x2048, .f32⟩
  | 40 => ⟨S2048x2048, .f32⟩
  | 41 => ⟨S2048x2048, .f32⟩
  | 42 => ⟨S2048x8, .f32⟩
  | 43 => ⟨S_, .f32⟩
  | 44 => ⟨S2048x8, .f32⟩
  | 45 => ⟨S2048x8, .i1⟩
  | 46 => ⟨S_, .f32⟩
  | 47 => ⟨S2048x8, .f32⟩
  | 48 => ⟨S2048x8, .i1⟩
  | 49 => ⟨S_, .f32⟩
  | 50 => ⟨S_, .f32⟩
  | 51 => ⟨S2048x8, .f32⟩
  | 52 => ⟨S2048x8, .f32⟩
  | 53 => ⟨S2048x8, .f32⟩
  | 54 => ⟨S_, .f32⟩
  | 55 => ⟨S2048x8, .f32⟩
  | 56 => ⟨S2048x8, .f32⟩
  | 57 => ⟨S2048x8, .f32⟩
  | 58 => ⟨S16x1, .f32⟩
  | 59 => ⟨S16x1, .f32⟩
  | 60 => ⟨S1x256x8, .f32⟩
  | 61 => ⟨S256x8, .f32⟩
  | 62 => ⟨S2048x256, .f32⟩
  | 63 => ⟨S_, .f32⟩
  | 64 => ⟨S2048, .f32⟩
  | 65 => ⟨S2048, .f32⟩
  | 66 => ⟨S256x2048, .f32⟩
  | 67 => ⟨S2048x2048, .f32⟩
  | 68 => ⟨S2048x1, .f32⟩
  | 69 => ⟨S1x2048, .f32⟩
  | 70 => ⟨S2048x2048, .f32⟩
  | 71 => ⟨S2048x2048, .f32⟩
  | 72 => ⟨S2048x2048, .f32⟩
  | 73 => ⟨S2048x2048, .f32⟩
  | 74 => ⟨S2048x2048, .i32⟩
  | 75 => ⟨S2048x2048, .i32⟩
  | 76 => ⟨S_, .i32⟩
  | 77 => ⟨S2048x2048, .i32⟩
  | 78 => ⟨S2048x2048, .i32⟩
  | 79 => ⟨S2048x2048, .i1⟩
  | 80 => ⟨S2048x2048, .f32⟩
  | 81 => ⟨S_, .f32⟩
  | 82 => ⟨S2048x2048, .f32⟩
  | 83 => ⟨S2048x2048, .f32⟩
  | 84 => ⟨S_, .f32⟩
  | 85 => ⟨S2048x2048, .f32⟩
  | 86 => ⟨S2048x2048, .i1⟩
  | 87 => ⟨S_, .f32⟩
  | 88 => ⟨S_, .f32⟩
  | 89 => ⟨S2048x2048, .f32⟩
  | 90 => ⟨S2048x2048, .f32⟩
  | 91 => ⟨S2048x2048, .f32⟩
  | 92 => ⟨S2048x2048, .f32⟩
  | 93 => ⟨S2048x2048, .f32⟩
  | 94 => ⟨S_, .f32⟩
  | 95 => ⟨S2048x2048, .f32⟩
  | 96 => ⟨S2048x2048, .i1⟩
  | 97 => ⟨S2048x2048, .f32⟩
  | 98 => ⟨S2048x2048, .f32⟩
  | 99 => ⟨S2048x2048, .f32⟩
  | 100 => ⟨S_, .f32⟩
  | 101 => ⟨S2048, .f32⟩
  | 102 => ⟨S2048x1, .f32⟩
  | 103 => ⟨S2048x2048, .f32⟩
  | 104 => ⟨S2048x2048, .f32⟩
  | 105 => ⟨S_, .f32⟩
  | 106 => ⟨S2048, .f32⟩
  | 107 => ⟨S2048x1, .f32⟩
  | 108 => ⟨S2048x8, .f32⟩
  | 109 => ⟨S2048x8, .f32⟩
  | 110 => ⟨S2048x8, .f32⟩
  | 111 => ⟨S8x1, .f32⟩
  | 112 => ⟨S2048x1, .f32⟩
  | 113 => ⟨S8x1, .f32⟩
  | 114 => ⟨S2048x1, .f32⟩
  | 115 => ⟨S1x2048, .f32⟩
  | 116 => ⟨S2048x2048, .f32⟩
  | 117 => ⟨S2048x2048, .f32⟩
  | 118 => ⟨S2048x2048, .f32⟩
  | 119 => ⟨S_, .f32⟩
  | 120 => ⟨S_, .f32⟩
  | 121 => ⟨S2048x2048, .f32⟩
  | 122 => ⟨S2048x2048, .i1⟩
  | 123 => ⟨S_, .f32⟩
  | 124 => ⟨S2048x2048, .f32⟩
  | 125 => ⟨S2048x2048, .f32⟩
  | 126 => ⟨S2048x2048, .f32⟩
  | 127 => ⟨S_, .f32⟩
  | _ => ⟨S6144x1x16x16, .f32⟩

abbrev hbmTy0_17 (i : Nat) : BufTy := match i % 128 with
  | 0 => ⟨S_, .f32⟩
  | 1 => ⟨S2048x1, .f32⟩
  | 2 => ⟨S2048x1, .f32⟩
  | 3 => ⟨S_, .f32⟩
  | 4 => ⟨S_, .f32⟩
  | 5 => ⟨S_, .f32⟩
  | 6 => ⟨S_, .f32⟩
  | 7 => ⟨S_, .f32⟩
  | 8 => ⟨S2048x1, .f32⟩
  | 9 => ⟨S2048x1, .f32⟩
  | 10 => ⟨S_, .f32⟩
  | 11 => ⟨S_, .f32⟩
  | 12 => ⟨S2048x1, .f32⟩
  | 13 => ⟨S2048x1, .f32⟩
  | 14 => ⟨S_, .f32⟩
  | 15 => ⟨S2048x2048, .f32⟩
  | 16 => ⟨S2048x2048, .i1⟩
  | 17 => ⟨S2048x2048, .f32⟩
  | 18 => ⟨S2048x2048, .f32⟩
  | 19 => ⟨S_, .f32⟩
  | 20 => ⟨S_, .f32⟩
  | 21 => ⟨S2048x2048, .f32⟩
  | 22 => ⟨S2048x2048, .f32⟩
  | 23 => ⟨S_, .f32⟩
  | 24 => ⟨S2048, .f32⟩
  | 25 => ⟨S_, .f32⟩
  | 26 => ⟨S2048, .f32⟩
  | 27 => ⟨S2048, .f32⟩
  | 28 => ⟨S2048x1, .f32⟩
  | 29 => ⟨S2048x2048, .f32⟩
  | 30 => ⟨S2048x2048, .f32⟩
  | 31 => ⟨S2048x2048, .f32⟩
  | 32 => ⟨S_, .f32⟩
  | 33 => ⟨S2048, .f32⟩
  | 34 => ⟨S2048x1, .f32⟩
  | 35 => ⟨S2048x2048, .f32⟩
  | 36 => ⟨S2048x2048, .f32⟩
  | 37 => ⟨S2048x2048, .f32⟩
  | 38 => ⟨S2048x8, .f32⟩
  | 39 => ⟨S_, .f32⟩
  | 40 => ⟨S2048x8, .f32⟩
  | 41 => ⟨S2048x8, .i1⟩
  | 42 => ⟨S_, .f32⟩
  | 43 => ⟨S2048x8, .f32⟩
  | 44 => ⟨S2048x8, .i1⟩
  | 45 => ⟨S_, .f32⟩
  | 46 => ⟨S_, .f32⟩
  | 47 => ⟨S2048x8, .f32⟩
  | 48 => ⟨S2048x8, .f32⟩
  | 49 => ⟨S2048x8, .f32⟩
  | 50 => ⟨S_, .f32⟩
  | 51 => ⟨S2048x8, .f32⟩
  | 52 => ⟨S2048x8, .f32⟩
  | 53 => ⟨S2048x8, .f32⟩
  | 54 => ⟨S2048x2048, .f32⟩
  | 55 => ⟨S2048x8, .f32⟩
  | 56 => ⟨S2048x8, .f32⟩
  | 57 => ⟨S8x1, .f32⟩
  | 58 => ⟨S2048x1, .f32⟩
  | 59 => ⟨S8x1, .f32⟩
  | 60 => ⟨S2048x1, .f32⟩
  | 61 => ⟨S1x2048, .f32⟩
  | 62 => ⟨S2048x2048, .f32⟩
  | 63 => ⟨S2048x2048, .f32⟩
  | 64 => ⟨S2048x2048, .f32⟩
  | 65 => ⟨S_, .f32⟩
  | 66 => ⟨S_, .f32⟩
  | 67 => ⟨S2048x2048, .f32⟩
  | 68 => ⟨S2048x2048, .i1⟩
  | 69 => ⟨S_, .f32⟩
  | 70 => ⟨S2048x2048, .f32⟩
  | 71 => ⟨S2048x2048, .f32⟩
  | 72 => ⟨S2048x2048, .f32⟩
  | 73 => ⟨S_, .f32⟩
  | 74 => ⟨S_, .f32⟩
  | 75 => ⟨S2048x1, .f32⟩
  | 76 => ⟨S2048x1, .f32⟩
  | 77 => ⟨S_, .f32⟩
  | 78 => ⟨S_, .f32⟩
  | 79 => ⟨S_, .f32⟩
  | 80 => ⟨S_, .f32⟩
  | 81 => ⟨S_, .f32⟩
  | 82 => ⟨S2048x1, .f32⟩
  | 83 => ⟨S2048x1, .f32⟩
  | 84 => ⟨S_, .f32⟩
  | 85 => ⟨S_, .f32⟩
  | 86 => ⟨S2048x1, .f32⟩
  | 87 => ⟨S2048x1, .f32⟩
  | 88 => ⟨S_, .f32⟩
  | 89 => ⟨S2048x2048, .f32⟩
  | 90 => ⟨S2048x2048, .i1⟩
  | 91 => ⟨S2048x2048, .f32⟩
  | 92 => ⟨S2048x2048, .f32⟩
  | 93 => ⟨S_, .f32⟩
  | 94 => ⟨S_, .f32⟩
  | 95 => ⟨S2048x2048, .f32⟩
  | 96 => ⟨S2048x2048, .f32⟩
  | 97 => ⟨S_, .f32⟩
  | 98 => ⟨S2048, .f32⟩
  | 99 => ⟨S_, .f32⟩
  | 100 => ⟨S2048, .f32⟩
  | 101 => ⟨S2048, .f32⟩
  | 102 => ⟨S2048x1, .f32⟩
  | 103 => ⟨S2048x2048, .f32⟩
  | 104 => ⟨S2048x2048, .f32⟩
  | 105 => ⟨S2048x2048, .f32⟩
  | 106 => ⟨S_, .f32⟩
  | 107 => ⟨S2048, .f32⟩
  | 108 => ⟨S2048x1, .f32⟩
  | 109 => ⟨S2048x2048, .f32⟩
  | 110 => ⟨S2048x2048, .f32⟩
  | 111 => ⟨S2048x2048, .f32⟩
  | 112 => ⟨S2048x8, .f32⟩
  | 113 => ⟨S_, .f32⟩
  | 114 => ⟨S2048x8, .f32⟩
  | 115 => ⟨S2048x8, .i1⟩
  | 116 => ⟨S_, .f32⟩
  | 117 => ⟨S2048x8, .f32⟩
  | 118 => ⟨S2048x8, .i1⟩
  | 119 => ⟨S_, .f32⟩
  | 120 => ⟨S_, .f32⟩
  | 121 => ⟨S2048x8, .f32⟩
  | 122 => ⟨S2048x8, .f32⟩
  | 123 => ⟨S2048x8, .f32⟩
  | 124 => ⟨S_, .f32⟩
  | 125 => ⟨S2048x8, .f32⟩
  | 126 => ⟨S2048x8, .f32⟩
  | 127 => ⟨S2048x8, .f32⟩
  | _ => ⟨S6144x1x16x16, .f32⟩

abbrev hbmTy0_18 (i : Nat) : BufTy := match i % 128 with
  | 0 => ⟨S16x1, .f32⟩
  | 1 => ⟨S16x1, .f32⟩
  | 2 => ⟨S1x256x8, .f32⟩
  | 3 => ⟨S256x8, .f32⟩
  | 4 => ⟨S2048x256, .f32⟩
  | 5 => ⟨S_, .f32⟩
  | 6 => ⟨S2048, .f32⟩
  | 7 => ⟨S2048, .f32⟩
  | 8 => ⟨S256x2048, .f32⟩
  | 9 => ⟨S2048x2048, .f32⟩
  | 10 => ⟨S2048x1, .f32⟩
  | 11 => ⟨S1x2048, .f32⟩
  | 12 => ⟨S2048x2048, .f32⟩
  | 13 => ⟨S2048x2048, .f32⟩
  | 14 => ⟨S2048x2048, .f32⟩
  | 15 => ⟨S2048x2048, .f32⟩
  | 16 => ⟨S2048x2048, .i32⟩
  | 17 => ⟨S2048x2048, .i32⟩
  | 18 => ⟨S_, .i32⟩
  | 19 => ⟨S2048x2048, .i32⟩
  | 20 => ⟨S2048x2048, .i32⟩
  | 21 => ⟨S2048x2048, .i1⟩
  | 22 => ⟨S2048x2048, .f32⟩
  | 23 => ⟨S_, .f32⟩
  | 24 => ⟨S2048x2048, .f32⟩
  | 25 => ⟨S2048x2048, .f32⟩
  | 26 => ⟨S_, .f32⟩
  | 27 => ⟨S2048x2048, .f32⟩
  | 28 => ⟨S2048x2048, .i1⟩
  | 29 => ⟨S_, .f32⟩
  | 30 => ⟨S_, .f32⟩
  | 31 => ⟨S2048x2048, .f32⟩
  | 32 => ⟨S2048x2048, .f32⟩
  | 33 => ⟨S2048x2048, .f32⟩
  | 34 => ⟨S2048x2048, .f32⟩
  | 35 => ⟨S2048x2048, .f32⟩
  | 36 => ⟨S_, .f32⟩
  | 37 => ⟨S2048x2048, .f32⟩
  | 38 => ⟨S2048x2048, .i1⟩
  | 39 => ⟨S2048x2048, .f32⟩
  | 40 => ⟨S2048x2048, .f32⟩
  | 41 => ⟨S2048x2048, .f32⟩
  | 42 => ⟨S_, .f32⟩
  | 43 => ⟨S2048, .f32⟩
  | 44 => ⟨S2048x1, .f32⟩
  | 45 => ⟨S2048x2048, .f32⟩
  | 46 => ⟨S2048x2048, .f32⟩
  | 47 => ⟨S_, .f32⟩
  | 48 => ⟨S2048, .f32⟩
  | 49 => ⟨S2048x1, .f32⟩
  | 50 => ⟨S2048x8, .f32⟩
  | 51 => ⟨S2048x8, .f32⟩
  | 52 => ⟨S2048x8, .f32⟩
  | 53 => ⟨S8x1, .f32⟩
  | 54 => ⟨S2048x1, .f32⟩
  | 55 => ⟨S8x1, .f32⟩
  | 56 => ⟨S2048x1, .f32⟩
  | 57 => ⟨S1x2048, .f32⟩
  | 58 => ⟨S2048x2048, .f32⟩
  | 59 => ⟨S2048x2048, .f32⟩
  | 60 => ⟨S2048x2048, .f32⟩
  | 61 => ⟨S_, .f32⟩
  | 62 => ⟨S_, .f32⟩
  | 63 => ⟨S2048x2048, .f32⟩
  | 64 => ⟨S2048x2048, .i1⟩
  | 65 => ⟨S_, .f32⟩
  | 66 => ⟨S2048x2048, .f32⟩
  | 67 => ⟨S2048x2048, .f32⟩
  | 68 => ⟨S2048x2048, .f32⟩
  | 69 => ⟨S_, .f32⟩
  | 70 => ⟨S_, .f32⟩
  | 71 => ⟨S2048x1, .f32⟩
  | 72 => ⟨S2048x1, .f32⟩
  | 73 => ⟨S_, .f32⟩
  | 74 => ⟨S_, .f32⟩
  | 75 => ⟨S_, .f32⟩
  | 76 => ⟨S_, .f32⟩
  | 77 => ⟨S_, .f32⟩
  | 78 => ⟨S2048x1, .f32⟩
  | 79 => ⟨S2048x1, .f32⟩
  | 80 => ⟨S_, .f32⟩
  | 81 => ⟨S_, .f32⟩
  | 82 => ⟨S2048x1, .f32⟩
  | 83 => ⟨S2048x1, .f32⟩
  | 84 => ⟨S_, .f32⟩
  | 85 => ⟨S2048x2048, .f32⟩
  | 86 => ⟨S2048x2048, .i1⟩
  | 87 => ⟨S2048x2048, .f32⟩
  | 88 => ⟨S2048x2048, .f32⟩
  | 89 => ⟨S_, .f32⟩
  | 90 => ⟨S_, .f32⟩
  | 91 => ⟨S2048x2048, .f32⟩
  | 92 => ⟨S2048x2048, .f32⟩
  | 93 => ⟨S_, .f32⟩
  | 94 => ⟨S2048, .f32⟩
  | 95 => ⟨S_, .f32⟩
  | 96 => ⟨S2048, .f32⟩
  | 97 => ⟨S2048, .f32⟩
  | 98 => ⟨S2048x1, .f32⟩
  | 99 => ⟨S2048x2048, .f32⟩
  | 100 => ⟨S2048x2048, .f32⟩
  | 101 => ⟨S2048x2048, .f32⟩
  | 102 => ⟨S_, .f32⟩
  | 103 => ⟨S2048, .f32⟩
  | 104 => ⟨S2048x1, .f32⟩
  | 105 => ⟨S2048x2048, .f32⟩
  | 106 => ⟨S2048x2048, .f32⟩
  | 107 => ⟨S2048x2048, .f32⟩
  | 108 => ⟨S2048x8, .f32⟩
  | 109 => ⟨S_, .f32⟩
  | 110 => ⟨S2048x8, .f32⟩
  | 111 => ⟨S2048x8, .i1⟩
  | 112 => ⟨S_, .f32⟩
  | 113 => ⟨S2048x8, .f32⟩
  | 114 => ⟨S2048x8, .i1⟩
  | 115 => ⟨S_, .f32⟩
  | 116 => ⟨S_, .f32⟩
  | 117 => ⟨S2048x8, .f32⟩
  | 118 => ⟨S2048x8, .f32⟩
  | 119 => ⟨S2048x8, .f32⟩
  | 120 => ⟨S_, .f32⟩
  | 121 => ⟨S2048x8, .f32⟩
  | 122 => ⟨S2048x8, .f32⟩
  | 123 => ⟨S2048x8, .f32⟩
  | 124 => ⟨S2048x2048, .f32⟩
  | 125 => ⟨S2048x8, .f32⟩
  | 126 => ⟨S2048x8, .f32⟩
  | 127 => ⟨S8x1, .f32⟩
  | _ => ⟨S6144x1x16x16, .f32⟩

abbrev hbmTy0_19 (i : Nat) : BufTy := match i % 128 with
  | 0 => ⟨S2048x1, .f32⟩
  | 1 => ⟨S8x1, .f32⟩
  | 2 => ⟨S2048x1, .f32⟩
  | 3 => ⟨S1x2048, .f32⟩
  | 4 => ⟨S2048x2048, .f32⟩
  | 5 => ⟨S2048x2048, .f32⟩
  | 6 => ⟨S2048x2048, .f32⟩
  | 7 => ⟨S_, .f32⟩
  | 8 => ⟨S_, .f32⟩
  | 9 => ⟨S2048x2048, .f32⟩
  | 10 => ⟨S2048x2048, .i1⟩
  | 11 => ⟨S_, .f32⟩
  | 12 => ⟨S2048x2048, .f32⟩
  | 13 => ⟨S2048x2048, .f32⟩
  | 14 => ⟨S2048x2048, .f32⟩
  | 15 => ⟨S_, .f32⟩
  | 16 => ⟨S_, .f32⟩
  | 17 => ⟨S2048x1, .f32⟩
  | 18 => ⟨S2048x1, .f32⟩
  | 19 => ⟨S_, .f32⟩
  | 20 => ⟨S_, .f32⟩
  | 21 => ⟨S_, .f32⟩
  | 22 => ⟨S_, .f32⟩
  | 23 => ⟨S_, .f32⟩
  | 24 => ⟨S2048x1, .f32⟩
  | 25 => ⟨S2048x1, .f32⟩
  | 26 => ⟨S_, .f32⟩
  | 27 => ⟨S_, .f32⟩
  | 28 => ⟨S2048x1, .f32⟩
  | 29 => ⟨S2048x1, .f32⟩
  | 30 => ⟨S_, .f32⟩
  | 31 => ⟨S2048x2048, .f32⟩
  | 32 => ⟨S2048x2048, .i1⟩
  | 33 => ⟨S2048x2048, .f32⟩
  | 34 => ⟨S2048x2048, .f32⟩
  | 35 => ⟨S_, .f32⟩
  | 36 => ⟨S_, .f32⟩
  | 37 => ⟨S2048x2048, .f32⟩
  | 38 => ⟨S2048x2048, .f32⟩
  | 39 => ⟨S_, .f32⟩
  | 40 => ⟨S2048, .f32⟩
  | 41 => ⟨S_, .f32⟩
  | 42 => ⟨S2048, .f32⟩
  | 43 => ⟨S2048, .f32⟩
  | 44 => ⟨S2048x1, .f32⟩
  | 45 => ⟨S2048x2048, .f32⟩
  | 46 => ⟨S2048x2048, .f32⟩
  | 47 => ⟨S2048x2048, .f32⟩
  | 48 => ⟨S_, .f32⟩
  | 49 => ⟨S2048, .f32⟩
  | 50 => ⟨S2048x1, .f32⟩
  | 51 => ⟨S2048x2048, .f32⟩
  | 52 => ⟨S2048x2048, .f32⟩
  | 53 => ⟨S2048x2048, .f32⟩
  | 54 => ⟨S2048x8, .f32⟩
  | 55 => ⟨S_, .f32⟩
  | 56 => ⟨S2048x8, .f32⟩
  | 57 => ⟨S2048x8, .i1⟩
  | 58 => ⟨S_, .f32⟩
  | 59 => ⟨S2048x8, .f32⟩
  | 60 => ⟨S2048x8, .i1⟩
  | 61 => ⟨S_, .f32⟩
  | 62 => ⟨S_, .f32⟩
  | 63 => ⟨S2048x8, .f32⟩
  | 64 => ⟨S2048x8, .f32⟩
  | 65 => ⟨S2048x8, .f32⟩
  | 66 => ⟨S_, .f32⟩
  | 67 => ⟨S2048x8, .f32⟩
  | 68 => ⟨S2048x8, .f32⟩
  | 69 => ⟨S2048x8, .f32⟩
  | 70 => ⟨S16x1, .f32⟩
  | 71 => ⟨S16x1, .f32⟩
  | 72 => ⟨S1x256x8, .f32⟩
  | 73 => ⟨S256x8, .f32⟩
  | 74 => ⟨S2048x256, .f32⟩
  | 75 => ⟨S_, .f32⟩
  | 76 => ⟨S2048, .f32⟩
  | 77 => ⟨S2048, .f32⟩
  | 78 => ⟨S256x2048, .f32⟩
  | 79 => ⟨S2048x2048, .f32⟩
  | 80 => ⟨S2048x1, .f32⟩
  | 81 => ⟨S1x2048, .f32⟩
  | 82 => ⟨S2048x2048, .f32⟩
  | 83 => ⟨S2048x2048, .f32⟩
  | 84 => ⟨S2048x2048, .f32⟩
  | 85 => ⟨S2048x2048, .f32⟩
  | 86 => ⟨S2048x2048, .i32⟩
  | 87 => ⟨S2048x2048, .i32⟩
  | 88 => ⟨S_, .i32⟩
  | 89 => ⟨S2048x2048, .i32⟩
  | 90 => ⟨S2048x2048, .i32⟩
  | 91 => ⟨S2048x2048, .i1⟩
  | 92 => ⟨S2048x2048, .f32⟩
  | 93 => ⟨S_, .f32⟩
  | 94 => ⟨S2048x2048, .f32⟩
  | 95 => ⟨S2048x2048, .f32⟩
  | 96 => ⟨S_, .f32⟩
  | 97 => ⟨S2048x2048, .f32⟩
  | 98 => ⟨S2048x2048, .i1⟩
  | 99 => ⟨S_, .f32⟩
  | 100 => ⟨S_, .f32⟩
  | 101 => ⟨S2048x2048, .f32⟩
  | 102 => ⟨S2048x2048, .f32⟩
  | 103 => ⟨S2048x2048, .f32⟩
  | 104 => ⟨S2048x2048, .f32⟩
  | 105 => ⟨S2048x2048, .f32⟩
  | 106 => ⟨S_, .f32⟩
  | 107 => ⟨S2048x2048, .f32⟩
  | 108 => ⟨S2048x2048, .i1⟩
  | 109 => ⟨S2048x2048, .f32⟩
  | 110 => ⟨S2048x2048, .f32⟩
  | 111 => ⟨S2048x2048, .f32⟩
  | 112 => ⟨S_, .f32⟩
  | 113 => ⟨S2048, .f32⟩
  | 114 => ⟨S2048x1, .f32⟩
  | 115 => ⟨S2048x2048, .f32⟩
  | 116 => ⟨S2048x2048, .f32⟩
  | 117 => ⟨S_, .f32⟩
  | 118 => ⟨S2048, .f32⟩
  | 119 => ⟨S2048x1, .f32⟩
  | 120 => ⟨S2048x8, .f32⟩
  | 121 => ⟨S2048x8, .f32⟩
  | 122 => ⟨S2048x8, .f32⟩
  | 123 => ⟨S8x1, .f32⟩
  | 124 => ⟨S2048x1, .f32⟩
  | 125 => ⟨S8x1, .f32⟩
  | 126 => ⟨S2048x1, .f32⟩
  | 127 => ⟨S1x2048, .f32⟩
  | _ => ⟨S6144x1x16x16, .f32⟩

abbrev hbmTy0_20 (i : Nat) : BufTy := match i % 128 with
  | 0 => ⟨S2048x2048, .f32⟩
  | 1 => ⟨S2048x2048, .f32⟩
  | 2 => ⟨S2048x2048, .f32⟩
  | 3 => ⟨S_, .f32⟩
  | 4 => ⟨S_, .f32⟩
  | 5 => ⟨S2048x2048, .f32⟩
  | 6 => ⟨S2048x2048, .i1⟩
  | 7 => ⟨S_, .f32⟩
  | 8 => ⟨S2048x2048, .f32⟩
  | 9 => ⟨S2048x2048, .f32⟩
  | 10 => ⟨S2048x2048, .f32⟩
  | 11 => ⟨S_, .f32⟩
  | 12 => ⟨S_, .f32⟩
  | 13 => ⟨S2048x1, .f32⟩
  | 14 => ⟨S2048x1, .f32⟩
  | 15 => ⟨S_, .f32⟩
  | 16 => ⟨S_, .f32⟩
  | 17 => ⟨S_, .f32⟩
  | 18 => ⟨S_, .f32⟩
  | 19 => ⟨S_, .f32⟩
  | 20 => ⟨S2048x1, .f32⟩
  | 21 => ⟨S2048x1, .f32⟩
  | 22 => ⟨S_, .f32⟩
  | 23 => ⟨S_, .f32⟩
  | 24 => ⟨S2048x1, .f32⟩
  | 25 => ⟨S2048x1, .f32⟩
  | 26 => ⟨S_, .f32⟩
  | 27 => ⟨S2048x2048, .f32⟩
  | 28 => ⟨S2048x2048, .i1⟩
  | 29 => ⟨S2048x2048, .f32⟩
  | 30 => ⟨S2048x2048, .f32⟩
  | 31 => ⟨S_, .f32⟩
  | 32 => ⟨S_, .f32⟩
  | 33 => ⟨S2048x2048, .f32⟩
  | 34 => ⟨S2048x2048, .f32⟩
  | 35 => ⟨S_, .f32⟩
  | 36 => ⟨S2048, .f32⟩
  | 37 => ⟨S_, .f32⟩
  | 38 => ⟨S2048, .f32⟩
  | 39 => ⟨S2048, .f32⟩
  | 40 => ⟨S2048x1, .f32⟩
  | 41 => ⟨S2048x2048, .f32⟩
  | 42 => ⟨S2048x2048, .f32⟩
  | 43 => ⟨S2048x2048, .f32⟩
  | 44 => ⟨S_, .f32⟩
  | 45 => ⟨S2048, .f32⟩
  | 46 => ⟨S2048x1, .f32⟩
  | 47 => ⟨S2048x2048, .f32⟩
  | 48 => ⟨S2048x2048, .f32⟩
  | 49 => ⟨S2048x2048, .f32⟩
  | 50 => ⟨S2048x8, .f32⟩
  | 51 => ⟨S_, .f32⟩
  | 52 => ⟨S2048x8, .f32⟩
  | 53 => ⟨S2048x8, .i1⟩
  | 54 => ⟨S_, .f32⟩
  | 55 => ⟨S2048x8, .f32⟩
  | 56 => ⟨S2048x8, .i1⟩
  | 57 => ⟨S_, .f32⟩
  | 58 => ⟨S_, .f32⟩
  | 59 => ⟨S2048x8, .f32⟩
  | 60 => ⟨S2048x8, .f32⟩
  | 61 => ⟨S2048x8, .f32⟩
  | 62 => ⟨S_, .f32⟩
  | 63 => ⟨S2048x8, .f32⟩
  | 64 => ⟨S2048x8, .f32⟩
  | 65 => ⟨S2048x8, .f32⟩
  | 66 => ⟨S2048x2048, .f32⟩
  | 67 => ⟨S2048x8, .f32⟩
  | 68 => ⟨S2048x8, .f32⟩
  | 69 => ⟨S8x1, .f32⟩
  | 70 => ⟨S2048x1, .f32⟩
  | 71 => ⟨S8x1, .f32⟩
  | 72 => ⟨S2048x1, .f32⟩
  | 73 => ⟨S1x2048, .f32⟩
  | 74 => ⟨S2048x2048, .f32⟩
  | 75 => ⟨S2048x2048, .f32⟩
  | 76 => ⟨S2048x2048, .f32⟩
  | 77 => ⟨S_, .f32⟩
  | 78 => ⟨S_, .f32⟩
  | 79 => ⟨S2048x2048, .f32⟩
  | 80 => ⟨S2048x2048, .i1⟩
  | 81 => ⟨S_, .f32⟩
  | 82 => ⟨S2048x2048, .f32⟩
  | 83 => ⟨S2048x2048, .f32⟩
  | 84 => ⟨S2048x2048, .f32⟩
  | 85 => ⟨S_, .f32⟩
  | 86 => ⟨S_, .f32⟩
  | 87 => ⟨S2048x1, .f32⟩
  | 88 => ⟨S2048x1, .f32⟩
  | 89 => ⟨S_, .f32⟩
  | 90 => ⟨S_, .f32⟩
  | 91 => ⟨S_, .f32⟩
  | 92 => ⟨S_, .f32⟩
  | 93 => ⟨S_, .f32⟩
  | 94 => ⟨S2048x1, .f32⟩
  | 95 => ⟨S2048x1, .f32⟩
  | 96 => ⟨S_, .f32⟩
  | 97 => ⟨S_, .f32⟩
  | 98 => ⟨S2048x1, .f32⟩
  | 99 => ⟨S2048x1, .f32⟩
  | 100 => ⟨S_, .f32⟩
  | 101 => ⟨S2048x2048, .f32⟩
  | 102 => ⟨S2048x2048, .i1⟩
  | 103 => ⟨S2048x2048, .f32⟩
  | 104 => ⟨S2048x2048, .f32⟩
  | 105 => ⟨S_, .f32⟩
  | 106 => ⟨S_, .f32⟩
  | 107 => ⟨S2048x2048, .f32⟩
  | 108 => ⟨S2048x2048, .f32⟩
  | 109 => ⟨S_, .f32⟩
  | 110 => ⟨S2048, .f32⟩
  | 111 => ⟨S_, .f32⟩
  | 112 => ⟨S2048, .f32⟩
  | 113 => ⟨S2048, .f32⟩
  | 114 => ⟨S2048x1, .f32⟩
  | 115 => ⟨S2048x2048, .f32⟩
  | 116 => ⟨S2048x2048, .f32⟩
  | 117 => ⟨S2048x2048, .f32⟩
  | 118 => ⟨S_, .f32⟩
  | 119 => ⟨S2048, .f32⟩
  | 120 => ⟨S2048x1, .f32⟩
  | 121 => ⟨S2048x2048, .f32⟩
  | 122 => ⟨S2048x2048, .f32⟩
  | 123 => ⟨S2048x2048, .f32⟩
  | 124 => ⟨S2048x8, .f32⟩
  | 125 => ⟨S_, .f32⟩
  | 126 => ⟨S2048x8, .f32⟩
  | 127 => ⟨S2048x8, .i1⟩
  | _ => ⟨S6144x1x16x16, .f32⟩

abbrev hbmTy0_21 (i : Nat) : BufTy := match i % 128 with
  | 0 => ⟨S_, .f32⟩
  | 1 => ⟨S2048x8, .f32⟩
  | 2 => ⟨S2048x8, .i1⟩
  | 3 => ⟨S_, .f32⟩
  | 4 => ⟨S_, .f32⟩
  | 5 => ⟨S2048x8, .f32⟩
  | 6 => ⟨S2048x8, .f32⟩
  | 7 => ⟨S2048x8, .f32⟩
  | 8 => ⟨S_, .f32⟩
  | 9 => ⟨S2048x8, .f32⟩
  | 10 => ⟨S2048x8, .f32⟩
  | 11 => ⟨S2048x8, .f32⟩
  | 12 => ⟨S2048x32, .f32⟩
  | 13 => ⟨S32x256, .f32⟩
  | 14 => ⟨S2048x256, .f32⟩
  | 15 => ⟨S1x256, .f32⟩
  | 16 => ⟨S2048x256, .f32⟩
  | 17 => ⟨S2048x256, .f32⟩
  | 18 => ⟨S_, .f32⟩
  | 19 => ⟨S2048x256, .f32⟩
  | 20 => ⟨S2048x256, .i1⟩
  | 21 => ⟨S_, .f32⟩
  | 22 => ⟨S2048x256, .f32⟩
  | 23 => ⟨S2048x256, .i1⟩
  | 24 => ⟨S_, .f32⟩
  | 25 => ⟨S_, .f32⟩
  | 26 => ⟨S2048x256, .f32⟩
  | 27 => ⟨S2048x256, .f32⟩
  | 28 => ⟨S2048x256, .f32⟩
  | 29 => ⟨S_, .f32⟩
  | 30 => ⟨S2048x256, .f32⟩
  | 31 => ⟨S2048x256, .f32⟩
  | 32 => ⟨S2048x256, .f32⟩
  | 33 => ⟨S32x256, .f32⟩
  | 34 => ⟨S2048x256, .f32⟩
  | 35 => ⟨S1x256, .f32⟩
  | 36 => ⟨S2048x256, .f32⟩
  | 37 => ⟨S2048x256, .f32⟩
  | 38 => ⟨S_, .f32⟩
  | 39 => ⟨S2048x256, .f32⟩
  | 40 => ⟨S2048x256, .i1⟩
  | 41 => ⟨S_, .f32⟩
  | 42 => ⟨S2048x256, .f32⟩
  | 43 => ⟨S2048x256, .i1⟩
  | 44 => ⟨S_, .f32⟩
  | 45 => ⟨S_, .f32⟩
  | 46 => ⟨S2048x256, .f32⟩
  | 47 => ⟨S2048x256, .f32⟩
  | 48 => ⟨S2048x256, .f32⟩
  | 49 => ⟨S_, .f32⟩
  | 50 => ⟨S2048x256, .f32⟩
  | 51 => ⟨S2048x256, .f32⟩
  | 52 => ⟨S2048x256, .f32⟩
  | 53 => ⟨S32x256, .f32⟩
  | 54 => ⟨S2048x256, .f32⟩
  | 55 => ⟨S1x256, .f32⟩
  | 56 => ⟨S2048x256, .f32⟩
  | 57 => ⟨S2048x256, .f32⟩
  | 58 => ⟨S_, .f32⟩
  | 59 => ⟨S2048x256, .f32⟩
  | 60 => ⟨S2048x256, .i1⟩
  | 61 => ⟨S_, .f32⟩
  | 62 => ⟨S2048x256, .f32⟩
  | 63 => ⟨S2048x256, .i1⟩
  | 64 => ⟨S_, .f32⟩
  | 65 => ⟨S_, .f32⟩
  | 66 => ⟨S2048x256, .f32⟩
  | 67 => ⟨S2048x256, .f32⟩
  | 68 => ⟨S2048x256, .f32⟩
  | 69 => ⟨S_, .f32⟩
  | 70 => ⟨S2048x256, .f32⟩
  | 71 => ⟨S2048x256, .f32⟩
  | 72 => ⟨S2048x256, .f32⟩
  | 73 => ⟨S1x16x16, .f32⟩
  | 74 => ⟨S16x16, .f32⟩
  | 75 => ⟨S16x2, .f32⟩
  | 76 => ⟨S1x16x16, .f32⟩
  | 77 => ⟨S16x16, .f32⟩
  | 78 => ⟨S16x2, .f32⟩
  | 79 => ⟨S16x2, .f32⟩
  | 80 => ⟨S16x2, .f32⟩
  | 81 => ⟨S16x2, .f32⟩
  | 82 => ⟨S_, .f32⟩
  | 83 => ⟨S16x2, .f32⟩
  | 84 => ⟨S16x2, .f32⟩
  | 85 => ⟨S_, .f32⟩
  | 86 => ⟨S16x2, .f32⟩
  | 87 => ⟨S16x2, .f32⟩
  | 88 => ⟨S1x16x16, .f32⟩
  | 89 => ⟨S16x16, .f32⟩
  | 90 => ⟨S16x2, .f32⟩
  | 91 => ⟨S1x16x16, .f32⟩
  | 92 => ⟨S16x16, .f32⟩
  | 93 => ⟨S16x2, .f32⟩
  | 94 => ⟨S16x2, .f32⟩
  | 95 => ⟨S16x2, .f32⟩
  | 96 => ⟨S16x2, .f32⟩
  | 97 => ⟨S_, .f32⟩
  | 98 => ⟨S16x2, .f32⟩
  | 99 => ⟨S16x2, .f32⟩
  | 100 => ⟨S_, .f32⟩
  | 101 => ⟨S16x2, .f32⟩
  | 102 => ⟨S16x2, .f32⟩
  | 103 => ⟨S1x16x16, .f32⟩
  | 104 => ⟨S16x16, .f32⟩
  | 105 => ⟨S16x2, .f32⟩
  | 106 => ⟨S1x16x16, .f32⟩
  | 107 => ⟨S16x16, .f32⟩
  | 108 => ⟨S16x2, .f32⟩
  | 109 => ⟨S16x2, .f32⟩
  | 110 => ⟨S16x2, .f32⟩
  | 111 => ⟨S16x2, .f32⟩
  | 112 => ⟨S_, .f32⟩
  | 113 => ⟨S16x2, .f32⟩
  | 114 => ⟨S16x2, .f32⟩
  | 115 => ⟨S16x2, .f32⟩
  | 116 => ⟨S16x2, .f32⟩
  | 117 => ⟨S16x2, .f32⟩
  | 118 => ⟨S16x1, .f32⟩
  | 119 => ⟨S16x1, .f32⟩
  | 120 => ⟨S256x8, .f32⟩
  | 121 => ⟨S2048x256, .f32⟩
  | 122 => ⟨S_, .f32⟩
  | 123 => ⟨S2048, .f32⟩
  | 124 => ⟨S2048, .f32⟩
  | 125 => ⟨S256x2048, .f32⟩
  | 126 => ⟨S2048x2048, .f32⟩
  | 127 => ⟨S2048x1, .f32⟩
  | _ => ⟨S6144x1x16x16, .f32⟩

abbrev hbmTy0_22 (i : Nat) : BufTy := match i % 128 with
  | 0 => ⟨S1x2048, .f32⟩
  | 1 => ⟨S2048x2048, .f32⟩
  | 2 => ⟨S2048x2048, .f32⟩
  | 3 => ⟨S2048x2048, .f32⟩
  | 4 => ⟨S2048x2048, .f32⟩
  | 5 => ⟨S2048x2048, .i32⟩
  | 6 => ⟨S2048x2048, .i32⟩
  | 7 => ⟨S_, .i32⟩
  | 8 => ⟨S2048x2048, .i32⟩
  | 9 => ⟨S2048x2048, .i32⟩
  | 10 => ⟨S2048x2048, .i1⟩
  | 11 => ⟨S2048x2048, .f32⟩
  | 12 => ⟨S_, .f32⟩
  | 13 => ⟨S2048x2048, .f32⟩
  | 14 => ⟨S2048x2048, .f32⟩
  | 15 => ⟨S_, .f32⟩
  | 16 => ⟨S2048x2048, .f32⟩
  | 17 => ⟨S2048x2048, .i1⟩
  | 18 => ⟨S_, .f32⟩
  | 19 => ⟨S_, .f32⟩
  | 20 => ⟨S2048x2048, .f32⟩
  | 21 => ⟨S2048x2048, .f32⟩
  | 22 => ⟨S2048x2048, .f32⟩
  | 23 => ⟨S2048x2048, .f32⟩
  | 24 => ⟨S2048x2048, .f32⟩
  | 25 => ⟨S_, .f32⟩
  | 26 => ⟨S2048x2048, .f32⟩
  | 27 => ⟨S2048x2048, .i1⟩
  | 28 => ⟨S2048x2048, .f32⟩
  | 29 => ⟨S2048x2048, .f32⟩
  | 30 => ⟨S2048x2048, .f32⟩
  | 31 => ⟨S_, .f32⟩
  | 32 => ⟨S2048, .f32⟩
  | 33 => ⟨S2048x1, .f32⟩
  | 34 => ⟨S2048x2048, .f32⟩
  | 35 => ⟨S2048x2048, .f32⟩
  | 36 => ⟨S_, .f32⟩
  | 37 => ⟨S2048, .f32⟩
  | 38 => ⟨S2048x1, .f32⟩
  | 39 => ⟨S2048x8, .f32⟩
  | 40 => ⟨S2048x8, .f32⟩
  | 41 => ⟨S2048x8, .f32⟩
  | 42 => ⟨S8x1, .f32⟩
  | 43 => ⟨S2048x1, .f32⟩
  | 44 => ⟨S8x1, .f32⟩
  | 45 => ⟨S2048x1, .f32⟩
  | 46 => ⟨S1x2048, .f32⟩
  | 47 => ⟨S2048x2048, .f32⟩
  | 48 => ⟨S2048x2048, .f32⟩
  | 49 => ⟨S2048x2048, .f32⟩
  | 50 => ⟨S_, .f32⟩
  | 51 => ⟨S_, .f32⟩
  | 52 => ⟨S2048x2048, .f32⟩
  | 53 => ⟨S2048x2048, .i1⟩
  | 54 => ⟨S_, .f32⟩
  | 55 => ⟨S2048x2048, .f32⟩
  | 56 => ⟨S2048x2048, .f32⟩
  | 57 => ⟨S2048x2048, .f32⟩
  | 58 => ⟨S_, .f32⟩
  | 59 => ⟨S_, .f32⟩
  | 60 => ⟨S2048x1, .f32⟩
  | 61 => ⟨S2048x1, .f32⟩
  | 62 => ⟨S_, .f32⟩
  | 63 => ⟨S_, .f32⟩
  | 64 => ⟨S_, .f32⟩
  | 65 => ⟨S_, .f32⟩
  | 66 => ⟨S_, .f32⟩
  | 67 => ⟨S2048x1, .f32⟩
  | 68 => ⟨S2048x1, .f32⟩
  | 69 => ⟨S_, .f32⟩
  | 70 => ⟨S_, .f32⟩
  | 71 => ⟨S2048x1, .f32⟩
  | 72 => ⟨S2048x1, .f32⟩
  | 73 => ⟨S_, .f32⟩
  | 74 => ⟨S2048x2048, .f32⟩
  | 75 => ⟨S2048x2048, .i1⟩
  | 76 => ⟨S2048x2048, .f32⟩
  | 77 => ⟨S2048x2048, .f32⟩
  | 78 => ⟨S_, .f32⟩
  | 79 => ⟨S_, .f32⟩
  | 80 => ⟨S2048x2048, .f32⟩
  | 81 => ⟨S2048x2048, .f32⟩
  | 82 => ⟨S_, .f32⟩
  | 83 => ⟨S2048, .f32⟩
  | 84 => ⟨S_, .f32⟩
  | 85 => ⟨S2048, .f32⟩
  | 86 => ⟨S2048, .f32⟩
  | 87 => ⟨S2048x1, .f32⟩
  | 88 => ⟨S2048x2048, .f32⟩
  | 89 => ⟨S2048x2048, .f32⟩
  | 90 => ⟨S2048x2048, .f32⟩
  | 91 => ⟨S_, .f32⟩
  | 92 => ⟨S2048, .f32⟩
  | 93 => ⟨S2048x1, .f32⟩
  | 94 => ⟨S2048x2048, .f32⟩
  | 95 => ⟨S2048x2048, .f32⟩
  | 96 => ⟨S2048x2048, .f32⟩
  | 97 => ⟨S2048x8, .f32⟩
  | 98 => ⟨S_, .f32⟩
  | 99 => ⟨S2048x8, .f32⟩
  | 100 => ⟨S2048x8, .i1⟩
  | 101 => ⟨S_, .f32⟩
  | 102 => ⟨S2048x8, .f32⟩
  | 103 => ⟨S2048x8, .i1⟩
  | 104 => ⟨S_, .f32⟩
  | 105 => ⟨S_, .f32⟩
  | 106 => ⟨S2048x8, .f32⟩
  | 107 => ⟨S2048x8, .f32⟩
  | 108 => ⟨S2048x8, .f32⟩
  | 109 => ⟨S_, .f32⟩
  | 110 => ⟨S2048x8, .f32⟩
  | 111 => ⟨S2048x8, .f32⟩
  | 112 => ⟨S2048x8, .f32⟩
  | 113 => ⟨S2048x2048, .f32⟩
  | 114 => ⟨S2048x8, .f32⟩
  | 115 => ⟨S2048x8, .f32⟩
  | 116 => ⟨S8x1, .f32⟩
  | 117 => ⟨S2048x1, .f32⟩
  | 118 => ⟨S8x1, .f32⟩
  | 119 => ⟨S2048x1, .f32⟩
  | 120 => ⟨S1x2048, .f32⟩
  | 121 => ⟨S2048x2048, .f32⟩
  | 122 => ⟨S2048x2048, .f32⟩
  | 123 => ⟨S2048x2048, .f32⟩
  | 124 => ⟨S_, .f32⟩
  | 125 => ⟨S_, .f32⟩
  | 126 => ⟨S2048x2048, .f32⟩
  | 127 => ⟨S2048x2048, .i1⟩
  | _ => ⟨S6144x1x16x16, .f32⟩

abbrev hbmTy0_23 (i : Nat) : BufTy := match i % 128 with
  | 0 => ⟨S_, .f32⟩
  | 1 => ⟨S2048x2048, .f32⟩
  | 2 => ⟨S2048x2048, .f32⟩
  | 3 => ⟨S2048x2048, .f32⟩
  | 4 => ⟨S_, .f32⟩
  | 5 => ⟨S_, .f32⟩
  | 6 => ⟨S2048x1, .f32⟩
  | 7 => ⟨S2048x1, .f32⟩
  | 8 => ⟨S_, .f32⟩
  | 9 => ⟨S_, .f32⟩
  | 10 => ⟨S_, .f32⟩
  | 11 => ⟨S_, .f32⟩
  | 12 => ⟨S_, .f32⟩
  | 13 => ⟨S2048x1, .f32⟩
  | 14 => ⟨S2048x1, .f32⟩
  | 15 => ⟨S_, .f32⟩
  | 16 => ⟨S_, .f32⟩
  | 17 => ⟨S2048x1, .f32⟩
  | 18 => ⟨S2048x1, .f32⟩
  | 19 => ⟨S_, .f32⟩
  | 20 => ⟨S2048x2048, .f32⟩
  | 21 => ⟨S2048x2048, .i1⟩
  | 22 => ⟨S2048x2048, .f32⟩
  | 23 => ⟨S2048x2048, .f32⟩
  | 24 => ⟨S_, .f32⟩
  | 25 => ⟨S_, .f32⟩
  | 26 => ⟨S2048x2048, .f32⟩
  | 27 => ⟨S2048x2048, .f32⟩
  | 28 => ⟨S_, .f32⟩
  | 29 => ⟨S2048, .f32⟩
  | 30 => ⟨S_, .f32⟩
  | 31 => ⟨S2048, .f32⟩
  | 32 => ⟨S2048, .f32⟩
  | 33 => ⟨S2048x1, .f32⟩
  | 34 => ⟨S2048x2048, .f32⟩
  | 35 => ⟨S2048x2048, .f32⟩
  | 36 => ⟨S2048x2048, .f32⟩
  | 37 => ⟨S_, .f32⟩
  | 38 => ⟨S2048, .f32⟩
  | 39 => ⟨S2048x1, .f32⟩
  | 40 => ⟨S2048x2048, .f32⟩
  | 41 => ⟨S2048x2048, .f32⟩
  | 42 => ⟨S2048x2048, .f32⟩
  | 43 => ⟨S2048x8, .f32⟩
  | 44 => ⟨S_, .f32⟩
  | 45 => ⟨S2048x8, .f32⟩
  | 46 => ⟨S2048x8, .i1⟩
  | 47 => ⟨S_, .f32⟩
  | 48 => ⟨S2048x8, .f32⟩
  | 49 => ⟨S2048x8, .i1⟩
  | 50 => ⟨S_, .f32⟩
  | 51 => ⟨S_, .f32⟩
  | 52 => ⟨S2048x8, .f32⟩
  | 53 => ⟨S2048x8, .f32⟩
  | 54 => ⟨S2048x8, .f32⟩
  | 55 => ⟨S_, .f32⟩
  | 56 => ⟨S2048x8, .f32⟩
  | 57 => ⟨S2048x8, .f32⟩
  | 58 => ⟨S2048x8, .f32⟩
  | 59 => ⟨S1x16x16, .f32⟩
  | 60 => ⟨S16x16, .f32⟩
  | 61 => ⟨S16x2, .f32⟩
  | 62 => ⟨S1x16x16, .f32⟩
  | 63 => ⟨S16x16, .f32⟩
  | 64 => ⟨S16x2, .f32⟩
  | 65 => ⟨S16x2, .f32⟩
  | 66 => ⟨S16x2, .f32⟩
  | 67 => ⟨S16x2, .f32⟩
  | 68 => ⟨S_, .f32⟩
  | 69 => ⟨S16x2, .f32⟩
  | 70 => ⟨S16x2, .f32⟩
  | 71 => ⟨S_, .f32⟩
  | 72 => ⟨S16x2, .f32⟩
  | 73 => ⟨S16x2, .f32⟩
  | 74 => ⟨S1x16x16, .f32⟩
  | 75 => ⟨S16x16, .f32⟩
  | 76 => ⟨S16x2, .f32⟩
  | 77 => ⟨S1x16x16, .f32⟩
  | 78 => ⟨S16x16, .f32⟩
  | 79 => ⟨S16x2, .f32⟩
  | 80 => ⟨S16x2, .f32⟩
  | 81 => ⟨S16x2, .f32⟩
  | 82 => ⟨S16x2, .f32⟩
  | 83 => ⟨S_, .f32⟩
  | 84 => ⟨S16x2, .f32⟩
  | 85 => ⟨S16x2, .f32⟩
  | 86 => ⟨S_, .f32⟩
  | 87 => ⟨S16x2, .f32⟩
  | 88 => ⟨S16x2, .f32⟩
  | 89 => ⟨S1x16x16, .f32⟩
  | 90 => ⟨S16x16, .f32⟩
  | 91 => ⟨S16x2, .f32⟩
  | 92 => ⟨S1x16x16, .f32⟩
  | 93 => ⟨S16x16, .f32⟩
  | 94 => ⟨S16x2, .f32⟩
  | 95 => ⟨S16x2, .f32⟩
  | 96 => ⟨S16x2, .f32⟩
  | 97 => ⟨S16x2, .f32⟩
  | 98 => ⟨S_, .f32⟩
  | 99 => ⟨S16x2, .f32⟩
  | 100 => ⟨S16x2, .f32⟩
  | 101 => ⟨S16x2, .f32⟩
  | 102 => ⟨S16x2, .f32⟩
  | 103 => ⟨S16x2, .f32⟩
  | 104 => ⟨S16x1, .f32⟩
  | 105 => ⟨S16x1, .f32⟩
  | 106 => ⟨S256x8, .f32⟩
  | 107 => ⟨S2048x256, .f32⟩
  | 108 => ⟨S_, .f32⟩
  | 109 => ⟨S2048, .f32⟩
  | 110 => ⟨S2048, .f32⟩
  | 111 => ⟨S256x2048, .f32⟩
  | 112 => ⟨S2048x2048, .f32⟩
  | 113 => ⟨S2048x1, .f32⟩
  | 114 => ⟨S1x2048, .f32⟩
  | 115 => ⟨S2048x2048, .f32⟩
  | 116 => ⟨S2048x2048, .f32⟩
  | 117 => ⟨S2048x2048, .f32⟩
  | 118 => ⟨S2048x2048, .f32⟩
  | 119 => ⟨S2048x2048, .i32⟩
  | 120 => ⟨S2048x2048, .i32⟩
  | 121 => ⟨S_, .i32⟩
  | 122 => ⟨S2048x2048, .i32⟩
  | 123 => ⟨S2048x2048, .i32⟩
  | 124 => ⟨S2048x2048, .i1⟩
  | 125 => ⟨S2048x2048, .f32⟩
  | 126 => ⟨S_, .f32⟩
  | 127 => ⟨S2048x2048, .f32⟩
  | _ => ⟨S6144x1x16x16, .f32⟩

abbrev hbmTy0_24 (i : Nat) : BufTy := match i % 128 with
  | 0 => ⟨S2048x2048, .f32⟩
  | 1 => ⟨S_, .f32⟩
  | 2 => ⟨S2048x2048, .f32⟩
  | 3 => ⟨S2048x2048, .i1⟩
  | 4 => ⟨S_, .f32⟩
  | 5 => ⟨S_, .f32⟩
  | 6 => ⟨S2048x2048, .f32⟩
  | 7 => ⟨S2048x2048, .f32⟩
  | 8 => ⟨S2048x2048, .f32⟩
  | 9 => ⟨S2048x2048, .f32⟩
  | 10 => ⟨S2048x2048, .f32⟩
  | 11 => ⟨S_, .f32⟩
  | 12 => ⟨S2048x2048, .f32⟩
  | 13 => ⟨S2048x2048, .i1⟩
  | 14 => ⟨S2048x2048, .f32⟩
  | 15 => ⟨S2048x2048, .f32⟩
  | 16 => ⟨S2048x2048, .f32⟩
  | 17 => ⟨S_, .f32⟩
  | 18 => ⟨S2048, .f32⟩
  | 19 => ⟨S2048x1, .f32⟩
  | 20 => ⟨S2048x2048, .f32⟩
  | 21 => ⟨S2048x2048, .f32⟩
  | 22 => ⟨S_, .f32⟩
  | 23 => ⟨S2048, .f32⟩
  | 24 => ⟨S2048x1, .f32⟩
  | 25 => ⟨S2048x8, .f32⟩
  | 26 => ⟨S2048x8, .f32⟩
  | 27 => ⟨S2048x8, .f32⟩
  | 28 => ⟨S8x1, .f32⟩
  | 29 => ⟨S2048x1, .f32⟩
  | 30 => ⟨S8x1, .f32⟩
  | 31 => ⟨S2048x1, .f32⟩
  | 32 => ⟨S1x2048, .f32⟩
  | 33 => ⟨S2048x2048, .f32⟩
  | 34 => ⟨S2048x2048, .f32⟩
  | 35 => ⟨S2048x2048, .f32⟩
  | 36 => ⟨S_, .f32⟩
  | 37 => ⟨S_, .f32⟩
  | 38 => ⟨S2048x2048, .f32⟩
  | 39 => ⟨S2048x2048, .i1⟩
  | 40 => ⟨S_, .f32⟩
  | 41 => ⟨S2048x2048, .f32⟩
  | 42 => ⟨S2048x2048, .f32⟩
  | 43 => ⟨S2048x2048, .f32⟩
  | 44 => ⟨S_, .f32⟩
  | 45 => ⟨S_, .f32⟩
  | 46 => ⟨S2048x1, .f32⟩
  | 47 => ⟨S2048x1, .f32⟩
  | 48 => ⟨S_, .f32⟩
  | 49 => ⟨S_, .f32⟩
  | 50 => ⟨S_, .f32⟩
  | 51 => ⟨S_, .f32⟩
  | 52 => ⟨S_, .f32⟩
  | 53 => ⟨S2048x1, .f32⟩
  | 54 => ⟨S2048x1, .f32⟩
  | 55 => ⟨S_, .f32⟩
  | 56 => ⟨S_, .f32⟩
  | 57 => ⟨S2048x1, .f32⟩
  | 58 => ⟨S2048x1, .f32⟩
  | 59 => ⟨S_, .f32⟩
  | 60 => ⟨S2048x2048, .f32⟩
  | 61 => ⟨S2048x2048, .i1⟩
  | 62 => ⟨S2048x2048, .f32⟩
  | 63 => ⟨S2048x2048, .f32⟩
  | 64 => ⟨S_, .f32⟩
  | 65 => ⟨S_, .f32⟩
  | 66 => ⟨S2048x2048, .f32⟩
  | 67 => ⟨S2048x2048, .f32⟩
  | 68 => ⟨S_, .f32⟩
  | 69 => ⟨S2048, .f32⟩
  | 70 => ⟨S_, .f32⟩
  | 71 => ⟨S2048, .f32⟩
  | 72 => ⟨S2048, .f32⟩
  | 73 => ⟨S2048x1, .f32⟩
  | 74 => ⟨S2048x2048, .f32⟩
  | 75 => ⟨S2048x2048, .f32⟩
  | 76 => ⟨S2048x2048, .f32⟩
  | 77 => ⟨S_, .f32⟩
  | 78 => ⟨S2048, .f32⟩
  | 79 => ⟨S2048x1, .f32⟩
  | 80 => ⟨S2048x2048, .f32⟩
  | 81 => ⟨S2048x2048, .f32⟩
  | 82 => ⟨S2048x2048, .f32⟩
  | 83 => ⟨S2048x8, .f32⟩
  | 84 => ⟨S_, .f32⟩
  | 85 => ⟨S2048x8, .f32⟩
  | 86 => ⟨S2048x8, .i1⟩
  | 87 => ⟨S_, .f32⟩
  | 88 => ⟨S2048x8, .f32⟩
  | 89 => ⟨S2048x8, .i1⟩
  | 90 => ⟨S_, .f32⟩
  | 91 => ⟨S_, .f32⟩
  | 92 => ⟨S2048x8, .f32⟩
  | 93 => ⟨S2048x8, .f32⟩
  | 94 => ⟨S2048x8, .f32⟩
  | 95 => ⟨S_, .f32⟩
  | 96 => ⟨S2048x8, .f32⟩
  | 97 => ⟨S2048x8, .f32⟩
  | 98 => ⟨S2048x8, .f32⟩
  | 99 => ⟨S2048x2048, .f32⟩
  | 100 => ⟨S2048x8, .f32⟩
  | 101 => ⟨S2048x8, .f32⟩
  | 102 => ⟨S8x1, .f32⟩
  | 103 => ⟨S2048x1, .f32⟩
  | 104 => ⟨S8x1, .f32⟩
  | 105 => ⟨S2048x1, .f32⟩
  | 106 => ⟨S1x2048, .f32⟩
  | 107 => ⟨S2048x2048, .f32⟩
  | 108 => ⟨S2048x2048, .f32⟩
  | 109 => ⟨S2048x2048, .f32⟩
  | 110 => ⟨S_, .f32⟩
  | 111 => ⟨S_, .f32⟩
  | 112 => ⟨S2048x2048, .f32⟩
  | 113 => ⟨S2048x2048, .i1⟩
  | 114 => ⟨S_, .f32⟩
  | 115 => ⟨S2048x2048, .f32⟩
  | 116 => ⟨S2048x2048, .f32⟩
  | 117 => ⟨S2048x2048, .f32⟩
  | 118 => ⟨S_, .f32⟩
  | 119 => ⟨S_, .f32⟩
  | 120 => ⟨S2048x1, .f32⟩
  | 121 => ⟨S2048x1, .f32⟩
  | 122 => ⟨S_, .f32⟩
  | 123 => ⟨S_, .f32⟩
  | 124 => ⟨S_, .f32⟩
  | 125 => ⟨S_, .f32⟩
  | 126 => ⟨S_, .f32⟩
  | 127 => ⟨S2048x1, .f32⟩
  | _ => ⟨S6144x1x16x16, .f32⟩

abbrev hbmTy0_25 (i : Nat) : BufTy := match i % 128 with
  | 0 => ⟨S2048x1, .f32⟩
  | 1 => ⟨S_, .f32⟩
  | 2 => ⟨S_, .f32⟩
  | 3 => ⟨S2048x1, .f32⟩
  | 4 => ⟨S2048x1, .f32⟩
  | 5 => ⟨S_, .f32⟩
  | 6 => ⟨S2048x2048, .f32⟩
  | 7 => ⟨S2048x2048, .i1⟩
  | 8 => ⟨S2048x2048, .f32⟩
  | 9 => ⟨S2048x2048, .f32⟩
  | 10 => ⟨S_, .f32⟩
  | 11 => ⟨S_, .f32⟩
  | 12 => ⟨S2048x2048, .f32⟩
  | 13 => ⟨S2048x2048, .f32⟩
  | 14 => ⟨S_, .f32⟩
  | 15 => ⟨S2048, .f32⟩
  | 16 => ⟨S_, .f32⟩
  | 17 => ⟨S2048, .f32⟩
  | 18 => ⟨S2048, .f32⟩
  | 19 => ⟨S2048x1, .f32⟩
  | 20 => ⟨S2048x2048, .f32⟩
  | 21 => ⟨S2048x2048, .f32⟩
  | 22 => ⟨S2048x2048, .f32⟩
  | 23 => ⟨S_, .f32⟩
  | 24 => ⟨S2048, .f32⟩
  | 25 => ⟨S2048x1, .f32⟩
  | 26 => ⟨S2048x2048, .f32⟩
  | 27 => ⟨S2048x2048, .f32⟩
  | 28 => ⟨S2048x2048, .f32⟩
  | 29 => ⟨S2048x8, .f32⟩
  | 30 => ⟨S_, .f32⟩
  | 31 => ⟨S2048x8, .f32⟩
  | 32 => ⟨S2048x8, .i1⟩
  | 33 => ⟨S_, .f32⟩
  | 34 => ⟨S2048x8, .f32⟩
  | 35 => ⟨S2048x8, .i1⟩
  | 36 => ⟨S_, .f32⟩
  | 37 => ⟨S_, .f32⟩
  | 38 => ⟨S2048x8, .f32⟩
  | 39 => ⟨S2048x8, .f32⟩
  | 40 => ⟨S2048x8, .f32⟩
  | 41 => ⟨S_, .f32⟩
  | 42 => ⟨S2048x8, .f32⟩
  | 43 => ⟨S2048x8, .f32⟩
  | 44 => ⟨S2048x8, .f32⟩
  | 45 => ⟨S1x16x16, .f32⟩
  | 46 => ⟨S16x16, .f32⟩
  | 47 => ⟨S16x2, .f32⟩
  | 48 => ⟨S1x16x16, .f32⟩
  | 49 => ⟨S16x16, .f32⟩
  | 50 => ⟨S16x2, .f32⟩
  | 51 => ⟨S16x2, .f32⟩
  | 52 => ⟨S16x2, .f32⟩
  | 53 => ⟨S16x2, .f32⟩
  | 54 => ⟨S_, .f32⟩
  | 55 => ⟨S16x2, .f32⟩
  | 56 => ⟨S16x2, .f32⟩
  | 57 => ⟨S_, .f32⟩
  | 58 => ⟨S16x2, .f32⟩
  | 59 => ⟨S16x2, .f32⟩
  | 60 => ⟨S1x16x16, .f32⟩
  | 61 => ⟨S16x16, .f32⟩
  | 62 => ⟨S16x2, .f32⟩
  | 63 => ⟨S1x16x16, .f32⟩
  | 64 => ⟨S16x16, .f32⟩
  | 65 => ⟨S16x2, .f32⟩
  | 66 => ⟨S16x2, .f32⟩
  | 67 => ⟨S16x2, .f32⟩
  | 68 => ⟨S16x2, .f32⟩
  | 69 => ⟨S_, .f32⟩
  | 70 => ⟨S16x2, .f32⟩
  | 71 => ⟨S16x2, .f32⟩
  | 72 => ⟨S_, .f32⟩
  | 73 => ⟨S16x2, .f32⟩
  | 74 => ⟨S16x2, .f32⟩
  | 75 => ⟨S1x16x16, .f32⟩
  | 76 => ⟨S16x16, .f32⟩
  | 77 => ⟨S16x2, .f32⟩
  | 78 => ⟨S1x16x16, .f32⟩
  | 79 => ⟨S16x16, .f32⟩
  | 80 => ⟨S16x2, .f32⟩
  | 81 => ⟨S16x2, .f32⟩
  | 82 => ⟨S16x2, .f32⟩
  | 83 => ⟨S16x2, .f32⟩
  | 84 => ⟨S_, .f32⟩
  | 85 => ⟨S16x2, .f32⟩
  | 86 => ⟨S16x2, .f32⟩
  | 87 => ⟨S16x2, .f32⟩
  | 88 => ⟨S16x2, .f32⟩
  | 89 => ⟨S16x2, .f32⟩
  | 90 => ⟨S16x1, .f32⟩
  | 91 => ⟨S16x1, .f32⟩
  | 92 => ⟨S256x8, .f32⟩
  | 93 => ⟨S2048x256, .f32⟩
  | 94 => ⟨S_, .f32⟩
  | 95 => ⟨S2048, .f32⟩
  | 96 => ⟨S2048, .f32⟩
  | 97 => ⟨S256x2048, .f32⟩
  | 98 => ⟨S2048x2048, .f32⟩
  | 99 => ⟨S2048x1, .f32⟩
  | 100 => ⟨S1x2048, .f32⟩
  | 101 => ⟨S2048x2048, .f32⟩
  | 102 => ⟨S2048x2048, .f32⟩
  | 103 => ⟨S2048x2048, .f32⟩
  | 104 => ⟨S2048x2048, .f32⟩
  | 105 => ⟨S2048x2048, .i32⟩
  | 106 => ⟨S2048x2048, .i32⟩
  | 107 => ⟨S_, .i32⟩
  | 108 => ⟨S2048x2048, .i32⟩
  | 109 => ⟨S2048x2048, .i32⟩
  | 110 => ⟨S2048x2048, .i1⟩
  | 111 => ⟨S2048x2048, .f32⟩
  | 112 => ⟨S_, .f32⟩
  | 113 => ⟨S2048x2048, .f32⟩
  | 114 => ⟨S2048x2048, .f32⟩
  | 115 => ⟨S_, .f32⟩
  | 116 => ⟨S2048x2048, .f32⟩
  | 117 => ⟨S2048x2048, .i1⟩
  | 118 => ⟨S_, .f32⟩
  | 119 => ⟨S_, .f32⟩
  | 120 => ⟨S2048x2048, .f32⟩
  | 121 => ⟨S2048x2048, .f32⟩
  | 122 => ⟨S2048x2048, .f32⟩
  | 123 => ⟨S2048x2048, .f32⟩
  | 124 => ⟨S2048x2048, .f32⟩
  | 125 => ⟨S_, .f32⟩
  | 126 => ⟨S2048x2048, .f32⟩
  | 127 => ⟨S2048x2048, .i1⟩
  | _ => ⟨S6144x1x16x16, .f32⟩

abbrev hbmTy0_26 (i : Nat) : BufTy := match i % 128 with
  | 0 => ⟨S2048x2048, .f32⟩
  | 1 => ⟨S2048x2048, .f32⟩
  | 2 => ⟨S2048x2048, .f32⟩
  | 3 => ⟨S_, .f32⟩
  | 4 => ⟨S2048, .f32⟩
  | 5 => ⟨S2048x1, .f32⟩
  | 6 => ⟨S2048x2048, .f32⟩
  | 7 => ⟨S2048x2048, .f32⟩
  | 8 => ⟨S_, .f32⟩
  | 9 => ⟨S2048, .f32⟩
  | 10 => ⟨S2048x1, .f32⟩
  | 11 => ⟨S2048x8, .f32⟩
  | 12 => ⟨S2048x8, .f32⟩
  | 13 => ⟨S2048x8, .f32⟩
  | 14 => ⟨S8x1, .f32⟩
  | 15 => ⟨S2048x1, .f32⟩
  | 16 => ⟨S8x1, .f32⟩
  | 17 => ⟨S2048x1, .f32⟩
  | 18 => ⟨S1x2048, .f32⟩
  | 19 => ⟨S2048x2048, .f32⟩
  | 20 => ⟨S2048x2048, .f32⟩
  | 21 => ⟨S2048x2048, .f32⟩
  | 22 => ⟨S_, .f32⟩
  | 23 => ⟨S_, .f32⟩
  | 24 => ⟨S2048x2048, .f32⟩
  | 25 => ⟨S2048x2048, .i1⟩
  | 26 => ⟨S_, .f32⟩
  | 27 => ⟨S2048x2048, .f32⟩
  | 28 => ⟨S2048x2048, .f32⟩
  | 29 => ⟨S2048x2048, .f32⟩
  | 30 => ⟨S_, .f32⟩
  | 31 => ⟨S_, .f32⟩
  | 32 => ⟨S2048x1, .f32⟩
  | 33 => ⟨S2048x1, .f32⟩
  | 34 => ⟨S_, .f32⟩
  | 35 => ⟨S_, .f32⟩
  | 36 => ⟨S_, .f32⟩
  | 37 => ⟨S_, .f32⟩
  | 38 => ⟨S_, .f32⟩
  | 39 => ⟨S2048x1, .f32⟩
  | 40 => ⟨S2048x1, .f32⟩
  | 41 => ⟨S_, .f32⟩
  | 42 => ⟨S_, .f32⟩
  | 43 => ⟨S2048x1, .f32⟩
  | 44 => ⟨S2048x1, .f32⟩
  | 45 => ⟨S_, .f32⟩
  | 46 => ⟨S2048x2048, .f32⟩
  | 47 => ⟨S2048x2048, .i1⟩
  | 48 => ⟨S2048x2048, .f32⟩
  | 49 => ⟨S2048x2048, .f32⟩
  | 50 => ⟨S_, .f32⟩
  | 51 => ⟨S_, .f32⟩
  | 52 => ⟨S2048x2048, .f32⟩
  | 53 => ⟨S2048x2048, .f32⟩
  | 54 => ⟨S_, .f32⟩
  | 55 => ⟨S2048, .f32⟩
  | 56 => ⟨S_, .f32⟩
  | 57 => ⟨S2048, .f32⟩
  | 58 => ⟨S2048, .f32⟩
  | 59 => ⟨S2048x1, .f32⟩
  | 60 => ⟨S2048x2048, .f32⟩
  | 61 => ⟨S2048x2048, .f32⟩
  | 62 => ⟨S2048x2048, .f32⟩
  | 63 => ⟨S_, .f32⟩
  | 64 => ⟨S2048, .f32⟩
  | 65 => ⟨S2048x1, .f32⟩
  | 66 => ⟨S2048x2048, .f32⟩
  | 67 => ⟨S2048x2048, .f32⟩
  | 68 => ⟨S2048x2048, .f32⟩
  | 69 => ⟨S2048x8, .f32⟩
  | 70 => ⟨S_, .f32⟩
  | 71 => ⟨S2048x8, .f32⟩
  | 72 => ⟨S2048x8, .i1⟩
  | 73 => ⟨S_, .f32⟩
  | 74 => ⟨S2048x8, .f32⟩
  | 75 => ⟨S2048x8, .i1⟩
  | 76 => ⟨S_, .f32⟩
  | 77 => ⟨S_, .f32⟩
  | 78 => ⟨S2048x8, .f32⟩
  | 79 => ⟨S2048x8, .f32⟩
  | 80 => ⟨S2048x8, .f32⟩
  | 81 => ⟨S_, .f32⟩
  | 82 => ⟨S2048x8, .f32⟩
  | 83 => ⟨S2048x8, .f32⟩
  | 84 => ⟨S2048x8, .f32⟩
  | 85 => ⟨S2048x2048, .f32⟩
  | 86 => ⟨S2048x8, .f32⟩
  | 87 => ⟨S2048x8, .f32⟩
  | 88 => ⟨S8x1, .f32⟩
  | 89 => ⟨S2048x1, .f32⟩
  | 90 => ⟨S8x1, .f32⟩
  | 91 => ⟨S2048x1, .f32⟩
  | 92 => ⟨S1x2048, .f32⟩
  | 93 => ⟨S2048x2048, .f32⟩
  | 94 => ⟨S2048x2048, .f32⟩
  | 95 => ⟨S2048x2048, .f32⟩
  | 96 => ⟨S_, .f32⟩
  | 97 => ⟨S_, .f32⟩
  | 98 => ⟨S2048x2048, .f32⟩
  | 99 => ⟨S2048x2048, .i1⟩
  | 100 => ⟨S_, .f32⟩
  | 101 => ⟨S2048x2048, .f32⟩
  | 102 => ⟨S2048x2048, .f32⟩
  | 103 => ⟨S2048x2048, .f32⟩
  | 104 => ⟨S_, .f32⟩
  | 105 => ⟨S_, .f32⟩
  | 106 => ⟨S2048x1, .f32⟩
  | 107 => ⟨S2048x1, .f32⟩
  | 108 => ⟨S_, .f32⟩
  | 109 => ⟨S_, .f32⟩
  | 110 => ⟨S_, .f32⟩
  | 111 => ⟨S_, .f32⟩
  | 112 => ⟨S_, .f32⟩
  | 113 => ⟨S2048x1, .f32⟩
  | 114 => ⟨S2048x1, .f32⟩
  | 115 => ⟨S_, .f32⟩
  | 116 => ⟨S_, .f32⟩
  | 117 => ⟨S2048x1, .f32⟩
  | 118 => ⟨S2048x1, .f32⟩
  | 119 => ⟨S_, .f32⟩
  | 120 => ⟨S2048x2048, .f32⟩
  | 121 => ⟨S2048x2048, .i1⟩
  | 122 => ⟨S2048x2048, .f32⟩
  | 123 => ⟨S2048x2048, .f32⟩
  | 124 => ⟨S_, .f32⟩
  | 125 => ⟨S_, .f32⟩
  | 126 => ⟨S2048x2048, .f32⟩
  | 127 => ⟨S2048x2048, .f32⟩
  | _ => ⟨S6144x1x16x16, .f32⟩

abbrev hbmTy0_27 (i : Nat) : BufTy := match i % 128 with
  | 0 => ⟨S_, .f32⟩
  | 1 => ⟨S2048, .f32⟩
  | 2 => ⟨S_, .f32⟩
  | 3 => ⟨S2048, .f32⟩
  | 4 => ⟨S2048, .f32⟩
  | 5 => ⟨S2048x1, .f32⟩
  | 6 => ⟨S2048x2048, .f32⟩
  | 7 => ⟨S2048x2048, .f32⟩
  | 8 => ⟨S2048x2048, .f32⟩
  | 9 => ⟨S_, .f32⟩
  | 10 => ⟨S2048, .f32⟩
  | 11 => ⟨S2048x1, .f32⟩
  | 12 => ⟨S2048x2048, .f32⟩
  | 13 => ⟨S2048x2048, .f32⟩
  | 14 => ⟨S2048x2048, .f32⟩
  | 15 => ⟨S2048x8, .f32⟩
  | 16 => ⟨S_, .f32⟩
  | 17 => ⟨S2048x8, .f32⟩
  | 18 => ⟨S2048x8, .i1⟩
  | 19 => ⟨S_, .f32⟩
  | 20 => ⟨S2048x8, .f32⟩
  | 21 => ⟨S2048x8, .i1⟩
  | 22 => ⟨S_, .f32⟩
  | 23 => ⟨S_, .f32⟩
  | 24 => ⟨S2048x8, .f32⟩
  | 25 => ⟨S2048x8, .f32⟩
  | 26 => ⟨S2048x8, .f32⟩
  | 27 => ⟨S_, .f32⟩
  | 28 => ⟨S2048x8, .f32⟩
  | 29 => ⟨S2048x8, .f32⟩
  | 30 => ⟨S2048x8, .f32⟩
  | _ => ⟨S6144x1x16x16, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | 10 => hbmTy0_10 i
  | 11 => hbmTy0_11 i
  | 12 => hbmTy0_12 i
  | 13 => hbmTy0_13 i
  | 14 => hbmTy0_14 i
  | 15 => hbmTy0_15 i
  | 16 => hbmTy0_16 i
  | 17 => hbmTy0_17 i
  | 18 => hbmTy0_18 i
  | 19 => hbmTy0_19 i
  | 20 => hbmTy0_20 i
  | 21 => hbmTy0_21 i
  | 22 => hbmTy0_22 i
  | 23 => hbmTy0_23 i
  | 24 => hbmTy0_24 i
  | 25 => hbmTy0_25 i
  | 26 => hbmTy0_26 i
  | 27 => hbmTy0_27 i
  | _ => ⟨S6144x1x16x16, .f32⟩

abbrev bufTy : (tb : Table) → Fin (tcTables nBuf tb) → BufTy
  | .hbm, ⟨i, _⟩ => hbmTy i
  | _, _ => ⟨S6144x1x16x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_0 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_1 : Ref sig .tc := ⟨.hbm, 30, rfl⟩
abbrev main_v16 : Ref sig .tc := ⟨.hbm, 31, rfl⟩
abbrev main_cst_2 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_4 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_5 : Ref sig .tc := ⟨.hbm, 45, rfl⟩
abbrev main_v27 : Ref sig .tc := ⟨.hbm, 46, rfl⟩
abbrev main_cst_6 : Ref sig .tc := ⟨.hbm, 47, rfl⟩
abbrev main_v28 : Ref sig .tc := ⟨.hbm, 48, rfl⟩
abbrev main_v29 : Ref sig .tc := ⟨.hbm, 49, rfl⟩
abbrev main_cst_7 : Ref sig .tc := ⟨.hbm, 50, rfl⟩
abbrev main_v30 : Ref sig .tc := ⟨.hbm, 51, rfl⟩
abbrev main_cst_8 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_9 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_10 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_cst_11 : Ref sig .tc := ⟨.hbm, 88, rfl⟩
abbrev main_v64 : Ref sig .tc := ⟨.hbm, 89, rfl⟩
abbrev main_cst_12 : Ref sig .tc := ⟨.hbm, 90, rfl⟩
abbrev main_v65 : Ref sig .tc := ⟨.hbm, 91, rfl⟩
abbrev main_cst_13 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_cst_14 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_cst_15 : Ref sig .tc := ⟨.hbm, 103, rfl⟩
abbrev main_v75 : Ref sig .tc := ⟨.hbm, 104, rfl⟩
abbrev main_cst_16 : Ref sig .tc := ⟨.hbm, 105, rfl⟩
abbrev main_v76 : Ref sig .tc := ⟨.hbm, 106, rfl⟩
abbrev main_v77 : Ref sig .tc := ⟨.hbm, 107, rfl⟩
abbrev main_cst_17 : Ref sig .tc := ⟨.hbm, 108, rfl⟩
abbrev main_v78 : Ref sig .tc := ⟨.hbm, 109, rfl⟩
abbrev main_cst_18 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_cst_19 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_cst_20 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_cst_21 : Ref sig .tc := ⟨.hbm, 146, rfl⟩
abbrev main_v112 : Ref sig .tc := ⟨.hbm, 147, rfl⟩
abbrev main_cst_22 : Ref sig .tc := ⟨.hbm, 148, rfl⟩
abbrev main_v113 : Ref sig .tc := ⟨.hbm, 149, rfl⟩
abbrev main_cst_23 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_cst_24 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_cst_25 : Ref sig .tc := ⟨.hbm, 161, rfl⟩
abbrev main_v123 : Ref sig .tc := ⟨.hbm, 162, rfl⟩
abbrev main_cst_26 : Ref sig .tc := ⟨.hbm, 163, rfl⟩
abbrev main_v124 : Ref sig .tc := ⟨.hbm, 164, rfl⟩
abbrev main_v125 : Ref sig .tc := ⟨.hbm, 165, rfl⟩
abbrev main_cst_27 : Ref sig .tc := ⟨.hbm, 166, rfl⟩
abbrev main_v126 : Ref sig .tc := ⟨.hbm, 167, rfl⟩
abbrev main_cst_28 : Ref sig .tc := ⟨.hbm, 168, rfl⟩
abbrev main_v127 : Ref sig .tc := ⟨.hbm, 169, rfl⟩
abbrev main_v128 : Ref sig .tc := ⟨.hbm, 170, rfl⟩
abbrev main_v129 : Ref sig .tc := ⟨.hbm, 171, rfl⟩
abbrev main_v130 : Ref sig .tc := ⟨.hbm, 172, rfl⟩
abbrev main_v131 : Ref sig .tc := ⟨.hbm, 173, rfl⟩
abbrev main_v132 : Ref sig .tc := ⟨.hbm, 174, rfl⟩
abbrev main_v133 : Ref sig .tc := ⟨.hbm, 175, rfl⟩
abbrev main_v134 : Ref sig .tc := ⟨.hbm, 176, rfl⟩
abbrev main_v135 : Ref sig .tc := ⟨.hbm, 177, rfl⟩
abbrev main_v136 : Ref sig .tc := ⟨.hbm, 178, rfl⟩
abbrev main_v137 : Ref sig .tc := ⟨.hbm, 179, rfl⟩
abbrev main_v138 : Ref sig .tc := ⟨.hbm, 180, rfl⟩
abbrev main_v139 : Ref sig .tc := ⟨.hbm, 181, rfl⟩
abbrev main_v140 : Ref sig .tc := ⟨.hbm, 182, rfl⟩
abbrev main_v141 : Ref sig .tc := ⟨.hbm, 183, rfl⟩
abbrev main_v142 : Ref sig .tc := ⟨.hbm, 184, rfl⟩
abbrev main_v143 : Ref sig .tc := ⟨.hbm, 185, rfl⟩
abbrev main_v144 : Ref sig .tc := ⟨.hbm, 186, rfl⟩
abbrev main_v145 : Ref sig .tc := ⟨.hbm, 187, rfl⟩
abbrev main_v146 : Ref sig .tc := ⟨.hbm, 188, rfl⟩
abbrev main_v147 : Ref sig .tc := ⟨.hbm, 189, rfl⟩
abbrev main_v148 : Ref sig .tc := ⟨.hbm, 190, rfl⟩
abbrev main_v149 : Ref sig .tc := ⟨.hbm, 191, rfl⟩
abbrev main_v150 : Ref sig .tc := ⟨.hbm, 192, rfl⟩
abbrev main_v151 : Ref sig .tc := ⟨.hbm, 193, rfl⟩
abbrev main_v152 : Ref sig .tc := ⟨.hbm, 194, rfl⟩
abbrev main_v153 : Ref sig .tc := ⟨.hbm, 195, rfl⟩
abbrev main_cst_29 : Ref sig .tc := ⟨.hbm, 196, rfl⟩
abbrev main_v154 : Ref sig .tc := ⟨.hbm, 197, rfl⟩
abbrev main_v155 : Ref sig .tc := ⟨.hbm, 198, rfl⟩
abbrev main_cst_30 : Ref sig .tc := ⟨.hbm, 199, rfl⟩
abbrev main_v156 : Ref sig .tc := ⟨.hbm, 200, rfl⟩
abbrev main_v157 : Ref sig .tc := ⟨.hbm, 201, rfl⟩
abbrev main_v158 : Ref sig .tc := ⟨.hbm, 202, rfl⟩
abbrev main_v159 : Ref sig .tc := ⟨.hbm, 203, rfl⟩
abbrev main_v160 : Ref sig .tc := ⟨.hbm, 204, rfl⟩
abbrev main_v161 : Ref sig .tc := ⟨.hbm, 205, rfl⟩
abbrev main_v162 : Ref sig .tc := ⟨.hbm, 206, rfl⟩
abbrev main_v163 : Ref sig .tc := ⟨.hbm, 207, rfl⟩
abbrev main_v164 : Ref sig .tc := ⟨.hbm, 208, rfl⟩
abbrev main_v165 : Ref sig .tc := ⟨.hbm, 209, rfl⟩
abbrev main_v166 : Ref sig .tc := ⟨.hbm, 210, rfl⟩
abbrev main_cst_31 : Ref sig .tc := ⟨.hbm, 211, rfl⟩
abbrev main_v167 : Ref sig .tc := ⟨.hbm, 212, rfl⟩
abbrev main_v168 : Ref sig .tc := ⟨.hbm, 213, rfl⟩
abbrev main_cst_32 : Ref sig .tc := ⟨.hbm, 214, rfl⟩
abbrev main_v169 : Ref sig .tc := ⟨.hbm, 215, rfl⟩
abbrev main_v170 : Ref sig .tc := ⟨.hbm, 216, rfl⟩
abbrev main_v171 : Ref sig .tc := ⟨.hbm, 217, rfl⟩
abbrev main_v172 : Ref sig .tc := ⟨.hbm, 218, rfl⟩
abbrev main_v173 : Ref sig .tc := ⟨.hbm, 219, rfl⟩
abbrev main_v174 : Ref sig .tc := ⟨.hbm, 220, rfl⟩
abbrev main_v175 : Ref sig .tc := ⟨.hbm, 221, rfl⟩
abbrev main_v176 : Ref sig .tc := ⟨.hbm, 222, rfl⟩
abbrev main_v177 : Ref sig .tc := ⟨.hbm, 223, rfl⟩
abbrev main_v178 : Ref sig .tc := ⟨.hbm, 224, rfl⟩
abbrev main_v179 : Ref sig .tc := ⟨.hbm, 225, rfl⟩
abbrev main_cst_33 : Ref sig .tc := ⟨.hbm, 226, rfl⟩
abbrev main_v180 : Ref sig .tc := ⟨.hbm, 227, rfl⟩
abbrev main_v181 : Ref sig .tc := ⟨.hbm, 228, rfl⟩
abbrev main_v182 : Ref sig .tc := ⟨.hbm, 229, rfl⟩
abbrev main_v183 : Ref sig .tc := ⟨.hbm, 230, rfl⟩
abbrev main_v184 : Ref sig .tc := ⟨.hbm, 231, rfl⟩
abbrev main_v185 : Ref sig .tc := ⟨.hbm, 232, rfl⟩
abbrev main_v186 : Ref sig .tc := ⟨.hbm, 233, rfl⟩
abbrev main_v187 : Ref sig .tc := ⟨.hbm, 234, rfl⟩
abbrev main_v188 : Ref sig .tc := ⟨.hbm, 235, rfl⟩
abbrev main_v189 : Ref sig .tc := ⟨.hbm, 236, rfl⟩
abbrev main_cst_34 : Ref sig .tc := ⟨.hbm, 237, rfl⟩
abbrev main_v190 : Ref sig .tc := ⟨.hbm, 238, rfl⟩
abbrev main_v191 : Ref sig .tc := ⟨.hbm, 239, rfl⟩
abbrev main_v192 : Ref sig .tc := ⟨.hbm, 240, rfl⟩
abbrev main_v193 : Ref sig .tc := ⟨.hbm, 241, rfl⟩
abbrev main_v194 : Ref sig .tc := ⟨.hbm, 242, rfl⟩
abbrev main_v195 : Ref sig .tc := ⟨.hbm, 243, rfl⟩
abbrev main_v196 : Ref sig .tc := ⟨.hbm, 244, rfl⟩
abbrev main_v197 : Ref sig .tc := ⟨.hbm, 245, rfl⟩
abbrev main_v198 : Ref sig .tc := ⟨.hbm, 246, rfl⟩
abbrev main_v199 : Ref sig .tc := ⟨.hbm, 247, rfl⟩
abbrev main_v200 : Ref sig .tc := ⟨.hbm, 248, rfl⟩
abbrev main_v201 : Ref sig .tc := ⟨.hbm, 249, rfl⟩
abbrev main_c : Ref sig .tc := ⟨.hbm, 250, rfl⟩
abbrev main_v202 : Ref sig .tc := ⟨.hbm, 251, rfl⟩
abbrev main_v203 : Ref sig .tc := ⟨.hbm, 252, rfl⟩
abbrev main_v204 : Ref sig .tc := ⟨.hbm, 253, rfl⟩
abbrev main_v205 : Ref sig .tc := ⟨.hbm, 254, rfl⟩
abbrev main_cst_35 : Ref sig .tc := ⟨.hbm, 255, rfl⟩
abbrev main_v206 : Ref sig .tc := ⟨.hbm, 256, rfl⟩
abbrev main_v207 : Ref sig .tc := ⟨.hbm, 257, rfl⟩
abbrev main_cst_36 : Ref sig .tc := ⟨.hbm, 258, rfl⟩
abbrev main_v208 : Ref sig .tc := ⟨.hbm, 259, rfl⟩
abbrev main_v209 : Ref sig .tc := ⟨.hbm, 260, rfl⟩
abbrev main_cst_37 : Ref sig .tc := ⟨.hbm, 261, rfl⟩
abbrev main_call0_v0 : Ref sig .tc := ⟨.hbm, 262, rfl⟩
abbrev main_call0_v1 : Ref sig .tc := ⟨.hbm, 263, rfl⟩
abbrev main_v210 : Ref sig .tc := ⟨.hbm, 264, rfl⟩
abbrev main_v211 : Ref sig .tc := ⟨.hbm, 265, rfl⟩
abbrev main_v212 : Ref sig .tc := ⟨.hbm, 266, rfl⟩
abbrev main_v213 : Ref sig .tc := ⟨.hbm, 267, rfl⟩
abbrev main_cst_38 : Ref sig .tc := ⟨.hbm, 268, rfl⟩
abbrev main_v214 : Ref sig .tc := ⟨.hbm, 269, rfl⟩
abbrev main_v215 : Ref sig .tc := ⟨.hbm, 270, rfl⟩
abbrev main_v216 : Ref sig .tc := ⟨.hbm, 271, rfl⟩
abbrev main_v217 : Ref sig .tc := ⟨.hbm, 272, rfl⟩
abbrev main_v218 : Ref sig .tc := ⟨.hbm, 273, rfl⟩
abbrev main_cst_39 : Ref sig .tc := ⟨.hbm, 274, rfl⟩
abbrev main_v219 : Ref sig .tc := ⟨.hbm, 275, rfl⟩
abbrev main_v220 : Ref sig .tc := ⟨.hbm, 276, rfl⟩
abbrev main_v221 : Ref sig .tc := ⟨.hbm, 277, rfl⟩
abbrev main_v222 : Ref sig .tc := ⟨.hbm, 278, rfl⟩
abbrev main_cst_40 : Ref sig .tc := ⟨.hbm, 279, rfl⟩
abbrev main_v223 : Ref sig .tc := ⟨.hbm, 280, rfl⟩
abbrev main_v224 : Ref sig .tc := ⟨.hbm, 281, rfl⟩
abbrev main_v225 : Ref sig .tc := ⟨.hbm, 282, rfl⟩
abbrev main_v226 : Ref sig .tc := ⟨.hbm, 283, rfl⟩
abbrev main_v227 : Ref sig .tc := ⟨.hbm, 284, rfl⟩
abbrev main_v228 : Ref sig .tc := ⟨.hbm, 285, rfl⟩
abbrev main_v229 : Ref sig .tc := ⟨.hbm, 286, rfl⟩
abbrev main_v230 : Ref sig .tc := ⟨.hbm, 287, rfl⟩
abbrev main_v231 : Ref sig .tc := ⟨.hbm, 288, rfl⟩
abbrev main_v232 : Ref sig .tc := ⟨.hbm, 289, rfl⟩
abbrev main_v233 : Ref sig .tc := ⟨.hbm, 290, rfl⟩
abbrev main_v234 : Ref sig .tc := ⟨.hbm, 291, rfl⟩
abbrev main_v235 : Ref sig .tc := ⟨.hbm, 292, rfl⟩
abbrev main_cst_41 : Ref sig .tc := ⟨.hbm, 293, rfl⟩
abbrev main_call1_cst : Ref sig .tc := ⟨.hbm, 294, rfl⟩
abbrev main_call1_v0 : Ref sig .tc := ⟨.hbm, 295, rfl⟩
abbrev main_call1_v1 : Ref sig .tc := ⟨.hbm, 296, rfl⟩
abbrev main_call1_v2 : Ref sig .tc := ⟨.hbm, 297, rfl⟩
abbrev main_call1_v3 : Ref sig .tc := ⟨.hbm, 298, rfl⟩
abbrev main_call1_v4 : Ref sig .tc := ⟨.hbm, 299, rfl⟩
abbrev main_v236 : Ref sig .tc := ⟨.hbm, 300, rfl⟩
abbrev main_cst_42 : Ref sig .tc := ⟨.hbm, 301, rfl⟩
abbrev main_v237 : Ref sig .tc := ⟨.hbm, 302, rfl⟩
abbrev main_v238 : Ref sig .tc := ⟨.hbm, 303, rfl⟩
abbrev main_v239 : Ref sig .tc := ⟨.hbm, 304, rfl⟩
abbrev main_cst_43 : Ref sig .tc := ⟨.hbm, 305, rfl⟩
abbrev main_v240 : Ref sig .tc := ⟨.hbm, 306, rfl⟩
abbrev main_cst_44 : Ref sig .tc := ⟨.hbm, 307, rfl⟩
abbrev main_v241 : Ref sig .tc := ⟨.hbm, 308, rfl⟩
abbrev main_v242 : Ref sig .tc := ⟨.hbm, 309, rfl⟩
abbrev main_v243 : Ref sig .tc := ⟨.hbm, 310, rfl⟩
abbrev main_v244 : Ref sig .tc := ⟨.hbm, 311, rfl⟩
abbrev main_cst_45 : Ref sig .tc := ⟨.hbm, 312, rfl⟩
abbrev main_v245 : Ref sig .tc := ⟨.hbm, 313, rfl⟩
abbrev main_v246 : Ref sig .tc := ⟨.hbm, 314, rfl⟩
abbrev main_v247 : Ref sig .tc := ⟨.hbm, 315, rfl⟩
abbrev main_cst_46 : Ref sig .tc := ⟨.hbm, 316, rfl⟩
abbrev main_v248 : Ref sig .tc := ⟨.hbm, 317, rfl⟩
abbrev main_v249 : Ref sig .tc := ⟨.hbm, 318, rfl⟩
abbrev main_v250 : Ref sig .tc := ⟨.hbm, 319, rfl⟩
abbrev main_v251 : Ref sig .tc := ⟨.hbm, 320, rfl⟩
abbrev main_cst_47 : Ref sig .tc := ⟨.hbm, 321, rfl⟩
abbrev main_call2_v0 : Ref sig .tc := ⟨.hbm, 322, rfl⟩
abbrev main_call2_v1 : Ref sig .tc := ⟨.hbm, 323, rfl⟩
abbrev main_v252 : Ref sig .tc := ⟨.hbm, 324, rfl⟩
abbrev main_cst_48 : Ref sig .tc := ⟨.hbm, 325, rfl⟩
abbrev main_v253 : Ref sig .tc := ⟨.hbm, 326, rfl⟩
abbrev main_cst_49 : Ref sig .tc := ⟨.hbm, 327, rfl⟩
abbrev main_v254 : Ref sig .tc := ⟨.hbm, 328, rfl⟩
abbrev main_v255 : Ref sig .tc := ⟨.hbm, 329, rfl⟩
abbrev main_v256 : Ref sig .tc := ⟨.hbm, 330, rfl⟩
abbrev main_v257 : Ref sig .tc := ⟨.hbm, 331, rfl⟩
abbrev main_v258 : Ref sig .tc := ⟨.hbm, 332, rfl⟩
abbrev main_v259 : Ref sig .tc := ⟨.hbm, 333, rfl⟩
abbrev main_cst_50 : Ref sig .tc := ⟨.hbm, 334, rfl⟩
abbrev main_v260 : Ref sig .tc := ⟨.hbm, 335, rfl⟩
abbrev main_v261 : Ref sig .tc := ⟨.hbm, 336, rfl⟩
abbrev main_v262 : Ref sig .tc := ⟨.hbm, 337, rfl⟩
abbrev main_v263 : Ref sig .tc := ⟨.hbm, 338, rfl⟩
abbrev main_v264 : Ref sig .tc := ⟨.hbm, 339, rfl⟩
abbrev main_v265 : Ref sig .tc := ⟨.hbm, 340, rfl⟩
abbrev main_call3_cst : Ref sig .tc := ⟨.hbm, 341, rfl⟩
abbrev main_call3_v0 : Ref sig .tc := ⟨.hbm, 342, rfl⟩
abbrev main_call3_v1 : Ref sig .tc := ⟨.hbm, 343, rfl⟩
abbrev main_call3_cst_0 : Ref sig .tc := ⟨.hbm, 344, rfl⟩
abbrev main_call3_v2 : Ref sig .tc := ⟨.hbm, 345, rfl⟩
abbrev main_call3_v3 : Ref sig .tc := ⟨.hbm, 346, rfl⟩
abbrev main_call3_cst_1 : Ref sig .tc := ⟨.hbm, 347, rfl⟩
abbrev main_call3_call0_v0 : Ref sig .tc := ⟨.hbm, 348, rfl⟩
abbrev main_call3_call0_v1 : Ref sig .tc := ⟨.hbm, 349, rfl⟩
abbrev main_call3_v4 : Ref sig .tc := ⟨.hbm, 350, rfl⟩
abbrev main_call3_v5 : Ref sig .tc := ⟨.hbm, 351, rfl⟩
abbrev main_call3_cst_2 : Ref sig .tc := ⟨.hbm, 352, rfl⟩
abbrev main_call3_v6 : Ref sig .tc := ⟨.hbm, 353, rfl⟩
abbrev main_call3_v7 : Ref sig .tc := ⟨.hbm, 354, rfl⟩
abbrev main_v266 : Ref sig .tc := ⟨.hbm, 355, rfl⟩
abbrev main_v267 : Ref sig .tc := ⟨.hbm, 356, rfl⟩
abbrev main_v268 : Ref sig .tc := ⟨.hbm, 357, rfl⟩
abbrev main_v269 : Ref sig .tc := ⟨.hbm, 358, rfl⟩
abbrev main_v270 : Ref sig .tc := ⟨.hbm, 359, rfl⟩
abbrev main_v271 : Ref sig .tc := ⟨.hbm, 360, rfl⟩
abbrev main_v272 : Ref sig .tc := ⟨.hbm, 361, rfl⟩
abbrev main_v273 : Ref sig .tc := ⟨.hbm, 362, rfl⟩
abbrev main_v274 : Ref sig .tc := ⟨.hbm, 363, rfl⟩
abbrev main_v275 : Ref sig .tc := ⟨.hbm, 364, rfl⟩
abbrev main_v276 : Ref sig .tc := ⟨.hbm, 365, rfl⟩
abbrev main_v277 : Ref sig .tc := ⟨.hbm, 366, rfl⟩
abbrev main_cst_51 : Ref sig .tc := ⟨.hbm, 367, rfl⟩
abbrev main_call4_cst : Ref sig .tc := ⟨.hbm, 368, rfl⟩
abbrev main_call4_v0 : Ref sig .tc := ⟨.hbm, 369, rfl⟩
abbrev main_call4_v1 : Ref sig .tc := ⟨.hbm, 370, rfl⟩
abbrev main_call4_v2 : Ref sig .tc := ⟨.hbm, 371, rfl⟩
abbrev main_call4_v3 : Ref sig .tc := ⟨.hbm, 372, rfl⟩
abbrev main_call4_v4 : Ref sig .tc := ⟨.hbm, 373, rfl⟩
abbrev main_v278 : Ref sig .tc := ⟨.hbm, 374, rfl⟩
abbrev main_cst_52 : Ref sig .tc := ⟨.hbm, 375, rfl⟩
abbrev main_v279 : Ref sig .tc := ⟨.hbm, 376, rfl⟩
abbrev main_v280 : Ref sig .tc := ⟨.hbm, 377, rfl⟩
abbrev main_v281 : Ref sig .tc := ⟨.hbm, 378, rfl⟩
abbrev main_cst_53 : Ref sig .tc := ⟨.hbm, 379, rfl⟩
abbrev main_v282 : Ref sig .tc := ⟨.hbm, 380, rfl⟩
abbrev main_cst_54 : Ref sig .tc := ⟨.hbm, 381, rfl⟩
abbrev main_v283 : Ref sig .tc := ⟨.hbm, 382, rfl⟩
abbrev main_v284 : Ref sig .tc := ⟨.hbm, 383, rfl⟩
abbrev main_v285 : Ref sig .tc := ⟨.hbm, 384, rfl⟩
abbrev main_v286 : Ref sig .tc := ⟨.hbm, 385, rfl⟩
abbrev main_cst_55 : Ref sig .tc := ⟨.hbm, 386, rfl⟩
abbrev main_v287 : Ref sig .tc := ⟨.hbm, 387, rfl⟩
abbrev main_v288 : Ref sig .tc := ⟨.hbm, 388, rfl⟩
abbrev main_v289 : Ref sig .tc := ⟨.hbm, 389, rfl⟩
abbrev main_cst_56 : Ref sig .tc := ⟨.hbm, 390, rfl⟩
abbrev main_v290 : Ref sig .tc := ⟨.hbm, 391, rfl⟩
abbrev main_v291 : Ref sig .tc := ⟨.hbm, 392, rfl⟩
abbrev main_v292 : Ref sig .tc := ⟨.hbm, 393, rfl⟩
abbrev main_v293 : Ref sig .tc := ⟨.hbm, 394, rfl⟩
abbrev main_cst_57 : Ref sig .tc := ⟨.hbm, 395, rfl⟩
abbrev main_call5_v0 : Ref sig .tc := ⟨.hbm, 396, rfl⟩
abbrev main_call5_v1 : Ref sig .tc := ⟨.hbm, 397, rfl⟩
abbrev main_v294 : Ref sig .tc := ⟨.hbm, 398, rfl⟩
abbrev main_cst_58 : Ref sig .tc := ⟨.hbm, 399, rfl⟩
abbrev main_v295 : Ref sig .tc := ⟨.hbm, 400, rfl⟩
abbrev main_cst_59 : Ref sig .tc := ⟨.hbm, 401, rfl⟩
abbrev main_v296 : Ref sig .tc := ⟨.hbm, 402, rfl⟩
abbrev main_v297 : Ref sig .tc := ⟨.hbm, 403, rfl⟩
abbrev main_v298 : Ref sig .tc := ⟨.hbm, 404, rfl⟩
abbrev main_v299 : Ref sig .tc := ⟨.hbm, 405, rfl⟩
abbrev main_v300 : Ref sig .tc := ⟨.hbm, 406, rfl⟩
abbrev main_v301 : Ref sig .tc := ⟨.hbm, 407, rfl⟩
abbrev main_cst_60 : Ref sig .tc := ⟨.hbm, 408, rfl⟩
abbrev main_v302 : Ref sig .tc := ⟨.hbm, 409, rfl⟩
abbrev main_v303 : Ref sig .tc := ⟨.hbm, 410, rfl⟩
abbrev main_v304 : Ref sig .tc := ⟨.hbm, 411, rfl⟩
abbrev main_v305 : Ref sig .tc := ⟨.hbm, 412, rfl⟩
abbrev main_v306 : Ref sig .tc := ⟨.hbm, 413, rfl⟩
abbrev main_v307 : Ref sig .tc := ⟨.hbm, 414, rfl⟩
abbrev main_call6_cst : Ref sig .tc := ⟨.hbm, 415, rfl⟩
abbrev main_call6_v0 : Ref sig .tc := ⟨.hbm, 416, rfl⟩
abbrev main_call6_v1 : Ref sig .tc := ⟨.hbm, 417, rfl⟩
abbrev main_call6_cst_0 : Ref sig .tc := ⟨.hbm, 418, rfl⟩
abbrev main_call6_v2 : Ref sig .tc := ⟨.hbm, 419, rfl⟩
abbrev main_call6_v3 : Ref sig .tc := ⟨.hbm, 420, rfl⟩
abbrev main_call6_cst_1 : Ref sig .tc := ⟨.hbm, 421, rfl⟩
abbrev main_call6_call0_v0 : Ref sig .tc := ⟨.hbm, 422, rfl⟩
abbrev main_call6_call0_v1 : Ref sig .tc := ⟨.hbm, 423, rfl⟩
abbrev main_call6_v4 : Ref sig .tc := ⟨.hbm, 424, rfl⟩
abbrev main_call6_v5 : Ref sig .tc := ⟨.hbm, 425, rfl⟩
abbrev main_call6_cst_2 : Ref sig .tc := ⟨.hbm, 426, rfl⟩
abbrev main_call6_v6 : Ref sig .tc := ⟨.hbm, 427, rfl⟩
abbrev main_call6_v7 : Ref sig .tc := ⟨.hbm, 428, rfl⟩
abbrev main_v308 : Ref sig .tc := ⟨.hbm, 429, rfl⟩
abbrev main_v309 : Ref sig .tc := ⟨.hbm, 430, rfl⟩
abbrev main_v310 : Ref sig .tc := ⟨.hbm, 431, rfl⟩
abbrev main_v311 : Ref sig .tc := ⟨.hbm, 432, rfl⟩
abbrev main_v312 : Ref sig .tc := ⟨.hbm, 433, rfl⟩
abbrev main_v313 : Ref sig .tc := ⟨.hbm, 434, rfl⟩
abbrev main_cst_61 : Ref sig .tc := ⟨.hbm, 435, rfl⟩
abbrev main_v314 : Ref sig .tc := ⟨.hbm, 436, rfl⟩
abbrev main_v315 : Ref sig .tc := ⟨.hbm, 437, rfl⟩
abbrev main_v316 : Ref sig .tc := ⟨.hbm, 438, rfl⟩
abbrev main_v317 : Ref sig .tc := ⟨.hbm, 439, rfl⟩
abbrev main_v318 : Ref sig .tc := ⟨.hbm, 440, rfl⟩
abbrev main_v319 : Ref sig .tc := ⟨.hbm, 441, rfl⟩
abbrev main_v320 : Ref sig .tc := ⟨.hbm, 442, rfl⟩
abbrev main_v321 : Ref sig .tc := ⟨.hbm, 443, rfl⟩
abbrev main_v322 : Ref sig .tc := ⟨.hbm, 444, rfl⟩
abbrev main_v323 : Ref sig .tc := ⟨.hbm, 445, rfl⟩
abbrev main_v324 : Ref sig .tc := ⟨.hbm, 446, rfl⟩
abbrev main_v325 : Ref sig .tc := ⟨.hbm, 447, rfl⟩
abbrev main_c_62 : Ref sig .tc := ⟨.hbm, 448, rfl⟩
abbrev main_v326 : Ref sig .tc := ⟨.hbm, 449, rfl⟩
abbrev main_v327 : Ref sig .tc := ⟨.hbm, 450, rfl⟩
abbrev main_v328 : Ref sig .tc := ⟨.hbm, 451, rfl⟩
abbrev main_v329 : Ref sig .tc := ⟨.hbm, 452, rfl⟩
abbrev main_cst_63 : Ref sig .tc := ⟨.hbm, 453, rfl⟩
abbrev main_v330 : Ref sig .tc := ⟨.hbm, 454, rfl⟩
abbrev main_v331 : Ref sig .tc := ⟨.hbm, 455, rfl⟩
abbrev main_cst_64 : Ref sig .tc := ⟨.hbm, 456, rfl⟩
abbrev main_v332 : Ref sig .tc := ⟨.hbm, 457, rfl⟩
abbrev main_v333 : Ref sig .tc := ⟨.hbm, 458, rfl⟩
abbrev main_cst_65 : Ref sig .tc := ⟨.hbm, 459, rfl⟩
abbrev main_call7_v0 : Ref sig .tc := ⟨.hbm, 460, rfl⟩
abbrev main_call7_v1 : Ref sig .tc := ⟨.hbm, 461, rfl⟩
abbrev main_v334 : Ref sig .tc := ⟨.hbm, 462, rfl⟩
abbrev main_v335 : Ref sig .tc := ⟨.hbm, 463, rfl⟩
abbrev main_v336 : Ref sig .tc := ⟨.hbm, 464, rfl⟩
abbrev main_v337 : Ref sig .tc := ⟨.hbm, 465, rfl⟩
abbrev main_cst_66 : Ref sig .tc := ⟨.hbm, 466, rfl⟩
abbrev main_v338 : Ref sig .tc := ⟨.hbm, 467, rfl⟩
abbrev main_v339 : Ref sig .tc := ⟨.hbm, 468, rfl⟩
abbrev main_v340 : Ref sig .tc := ⟨.hbm, 469, rfl⟩
abbrev main_v341 : Ref sig .tc := ⟨.hbm, 470, rfl⟩
abbrev main_v342 : Ref sig .tc := ⟨.hbm, 471, rfl⟩
abbrev main_cst_67 : Ref sig .tc := ⟨.hbm, 472, rfl⟩
abbrev main_v343 : Ref sig .tc := ⟨.hbm, 473, rfl⟩
abbrev main_v344 : Ref sig .tc := ⟨.hbm, 474, rfl⟩
abbrev main_v345 : Ref sig .tc := ⟨.hbm, 475, rfl⟩
abbrev main_v346 : Ref sig .tc := ⟨.hbm, 476, rfl⟩
abbrev main_cst_68 : Ref sig .tc := ⟨.hbm, 477, rfl⟩
abbrev main_v347 : Ref sig .tc := ⟨.hbm, 478, rfl⟩
abbrev main_v348 : Ref sig .tc := ⟨.hbm, 479, rfl⟩
abbrev main_v349 : Ref sig .tc := ⟨.hbm, 480, rfl⟩
abbrev main_v350 : Ref sig .tc := ⟨.hbm, 481, rfl⟩
abbrev main_v351 : Ref sig .tc := ⟨.hbm, 482, rfl⟩
abbrev main_v352 : Ref sig .tc := ⟨.hbm, 483, rfl⟩
abbrev main_v353 : Ref sig .tc := ⟨.hbm, 484, rfl⟩
abbrev main_v354 : Ref sig .tc := ⟨.hbm, 485, rfl⟩
abbrev main_v355 : Ref sig .tc := ⟨.hbm, 486, rfl⟩
abbrev main_v356 : Ref sig .tc := ⟨.hbm, 487, rfl⟩
abbrev main_v357 : Ref sig .tc := ⟨.hbm, 488, rfl⟩
abbrev main_v358 : Ref sig .tc := ⟨.hbm, 489, rfl⟩
abbrev main_v359 : Ref sig .tc := ⟨.hbm, 490, rfl⟩
abbrev main_cst_69 : Ref sig .tc := ⟨.hbm, 491, rfl⟩
abbrev main_call8_cst : Ref sig .tc := ⟨.hbm, 492, rfl⟩
abbrev main_call8_v0 : Ref sig .tc := ⟨.hbm, 493, rfl⟩
abbrev main_call8_v1 : Ref sig .tc := ⟨.hbm, 494, rfl⟩
abbrev main_call8_v2 : Ref sig .tc := ⟨.hbm, 495, rfl⟩
abbrev main_call8_v3 : Ref sig .tc := ⟨.hbm, 496, rfl⟩
abbrev main_call8_v4 : Ref sig .tc := ⟨.hbm, 497, rfl⟩
abbrev main_v360 : Ref sig .tc := ⟨.hbm, 498, rfl⟩
abbrev main_cst_70 : Ref sig .tc := ⟨.hbm, 499, rfl⟩
abbrev main_v361 : Ref sig .tc := ⟨.hbm, 500, rfl⟩
abbrev main_v362 : Ref sig .tc := ⟨.hbm, 501, rfl⟩
abbrev main_v363 : Ref sig .tc := ⟨.hbm, 502, rfl⟩
abbrev main_cst_71 : Ref sig .tc := ⟨.hbm, 503, rfl⟩
abbrev main_v364 : Ref sig .tc := ⟨.hbm, 504, rfl⟩
abbrev main_cst_72 : Ref sig .tc := ⟨.hbm, 505, rfl⟩
abbrev main_v365 : Ref sig .tc := ⟨.hbm, 506, rfl⟩
abbrev main_v366 : Ref sig .tc := ⟨.hbm, 507, rfl⟩
abbrev main_v367 : Ref sig .tc := ⟨.hbm, 508, rfl⟩
abbrev main_v368 : Ref sig .tc := ⟨.hbm, 509, rfl⟩
abbrev main_cst_73 : Ref sig .tc := ⟨.hbm, 510, rfl⟩
abbrev main_v369 : Ref sig .tc := ⟨.hbm, 511, rfl⟩
abbrev main_v370 : Ref sig .tc := ⟨.hbm, 512, rfl⟩
abbrev main_v371 : Ref sig .tc := ⟨.hbm, 513, rfl⟩
abbrev main_cst_74 : Ref sig .tc := ⟨.hbm, 514, rfl⟩
abbrev main_v372 : Ref sig .tc := ⟨.hbm, 515, rfl⟩
abbrev main_v373 : Ref sig .tc := ⟨.hbm, 516, rfl⟩
abbrev main_v374 : Ref sig .tc := ⟨.hbm, 517, rfl⟩
abbrev main_v375 : Ref sig .tc := ⟨.hbm, 518, rfl⟩
abbrev main_cst_75 : Ref sig .tc := ⟨.hbm, 519, rfl⟩
abbrev main_call9_v0 : Ref sig .tc := ⟨.hbm, 520, rfl⟩
abbrev main_call9_v1 : Ref sig .tc := ⟨.hbm, 521, rfl⟩
abbrev main_v376 : Ref sig .tc := ⟨.hbm, 522, rfl⟩
abbrev main_cst_76 : Ref sig .tc := ⟨.hbm, 523, rfl⟩
abbrev main_v377 : Ref sig .tc := ⟨.hbm, 524, rfl⟩
abbrev main_cst_77 : Ref sig .tc := ⟨.hbm, 525, rfl⟩
abbrev main_v378 : Ref sig .tc := ⟨.hbm, 526, rfl⟩
abbrev main_v379 : Ref sig .tc := ⟨.hbm, 527, rfl⟩
abbrev main_v380 : Ref sig .tc := ⟨.hbm, 528, rfl⟩
abbrev main_v381 : Ref sig .tc := ⟨.hbm, 529, rfl⟩
abbrev main_v382 : Ref sig .tc := ⟨.hbm, 530, rfl⟩
abbrev main_v383 : Ref sig .tc := ⟨.hbm, 531, rfl⟩
abbrev main_cst_78 : Ref sig .tc := ⟨.hbm, 532, rfl⟩
abbrev main_v384 : Ref sig .tc := ⟨.hbm, 533, rfl⟩
abbrev main_v385 : Ref sig .tc := ⟨.hbm, 534, rfl⟩
abbrev main_v386 : Ref sig .tc := ⟨.hbm, 535, rfl⟩
abbrev main_v387 : Ref sig .tc := ⟨.hbm, 536, rfl⟩
abbrev main_v388 : Ref sig .tc := ⟨.hbm, 537, rfl⟩
abbrev main_v389 : Ref sig .tc := ⟨.hbm, 538, rfl⟩
abbrev main_call10_cst : Ref sig .tc := ⟨.hbm, 539, rfl⟩
abbrev main_call10_v0 : Ref sig .tc := ⟨.hbm, 540, rfl⟩
abbrev main_call10_v1 : Ref sig .tc := ⟨.hbm, 541, rfl⟩
abbrev main_call10_cst_0 : Ref sig .tc := ⟨.hbm, 542, rfl⟩
abbrev main_call10_v2 : Ref sig .tc := ⟨.hbm, 543, rfl⟩
abbrev main_call10_v3 : Ref sig .tc := ⟨.hbm, 544, rfl⟩
abbrev main_call10_cst_1 : Ref sig .tc := ⟨.hbm, 545, rfl⟩
abbrev main_call10_call0_v0 : Ref sig .tc := ⟨.hbm, 546, rfl⟩
abbrev main_call10_call0_v1 : Ref sig .tc := ⟨.hbm, 547, rfl⟩
abbrev main_call10_v4 : Ref sig .tc := ⟨.hbm, 548, rfl⟩
abbrev main_call10_v5 : Ref sig .tc := ⟨.hbm, 549, rfl⟩
abbrev main_call10_cst_2 : Ref sig .tc := ⟨.hbm, 550, rfl⟩
abbrev main_call10_v6 : Ref sig .tc := ⟨.hbm, 551, rfl⟩
abbrev main_call10_v7 : Ref sig .tc := ⟨.hbm, 552, rfl⟩
abbrev main_v390 : Ref sig .tc := ⟨.hbm, 553, rfl⟩
abbrev main_v391 : Ref sig .tc := ⟨.hbm, 554, rfl⟩
abbrev main_v392 : Ref sig .tc := ⟨.hbm, 555, rfl⟩
abbrev main_v393 : Ref sig .tc := ⟨.hbm, 556, rfl⟩
abbrev main_v394 : Ref sig .tc := ⟨.hbm, 557, rfl⟩
abbrev main_v395 : Ref sig .tc := ⟨.hbm, 558, rfl⟩
abbrev main_v396 : Ref sig .tc := ⟨.hbm, 559, rfl⟩
abbrev main_v397 : Ref sig .tc := ⟨.hbm, 560, rfl⟩
abbrev main_v398 : Ref sig .tc := ⟨.hbm, 561, rfl⟩
abbrev main_v399 : Ref sig .tc := ⟨.hbm, 562, rfl⟩
abbrev main_v400 : Ref sig .tc := ⟨.hbm, 563, rfl⟩
abbrev main_v401 : Ref sig .tc := ⟨.hbm, 564, rfl⟩
abbrev main_cst_79 : Ref sig .tc := ⟨.hbm, 565, rfl⟩
abbrev main_call11_cst : Ref sig .tc := ⟨.hbm, 566, rfl⟩
abbrev main_call11_v0 : Ref sig .tc := ⟨.hbm, 567, rfl⟩
abbrev main_call11_v1 : Ref sig .tc := ⟨.hbm, 568, rfl⟩
abbrev main_call11_v2 : Ref sig .tc := ⟨.hbm, 569, rfl⟩
abbrev main_call11_v3 : Ref sig .tc := ⟨.hbm, 570, rfl⟩
abbrev main_call11_v4 : Ref sig .tc := ⟨.hbm, 571, rfl⟩
abbrev main_v402 : Ref sig .tc := ⟨.hbm, 572, rfl⟩
abbrev main_cst_80 : Ref sig .tc := ⟨.hbm, 573, rfl⟩
abbrev main_v403 : Ref sig .tc := ⟨.hbm, 574, rfl⟩
abbrev main_v404 : Ref sig .tc := ⟨.hbm, 575, rfl⟩
abbrev main_v405 : Ref sig .tc := ⟨.hbm, 576, rfl⟩
abbrev main_cst_81 : Ref sig .tc := ⟨.hbm, 577, rfl⟩
abbrev main_v406 : Ref sig .tc := ⟨.hbm, 578, rfl⟩
abbrev main_cst_82 : Ref sig .tc := ⟨.hbm, 579, rfl⟩
abbrev main_v407 : Ref sig .tc := ⟨.hbm, 580, rfl⟩
abbrev main_v408 : Ref sig .tc := ⟨.hbm, 581, rfl⟩
abbrev main_v409 : Ref sig .tc := ⟨.hbm, 582, rfl⟩
abbrev main_v410 : Ref sig .tc := ⟨.hbm, 583, rfl⟩
abbrev main_cst_83 : Ref sig .tc := ⟨.hbm, 584, rfl⟩
abbrev main_v411 : Ref sig .tc := ⟨.hbm, 585, rfl⟩
abbrev main_v412 : Ref sig .tc := ⟨.hbm, 586, rfl⟩
abbrev main_v413 : Ref sig .tc := ⟨.hbm, 587, rfl⟩
abbrev main_cst_84 : Ref sig .tc := ⟨.hbm, 588, rfl⟩
abbrev main_v414 : Ref sig .tc := ⟨.hbm, 589, rfl⟩
abbrev main_v415 : Ref sig .tc := ⟨.hbm, 590, rfl⟩
abbrev main_v416 : Ref sig .tc := ⟨.hbm, 591, rfl⟩
abbrev main_v417 : Ref sig .tc := ⟨.hbm, 592, rfl⟩
abbrev main_cst_85 : Ref sig .tc := ⟨.hbm, 593, rfl⟩
abbrev main_call12_v0 : Ref sig .tc := ⟨.hbm, 594, rfl⟩
abbrev main_call12_v1 : Ref sig .tc := ⟨.hbm, 595, rfl⟩
abbrev main_v418 : Ref sig .tc := ⟨.hbm, 596, rfl⟩
abbrev main_cst_86 : Ref sig .tc := ⟨.hbm, 597, rfl⟩
abbrev main_v419 : Ref sig .tc := ⟨.hbm, 598, rfl⟩
abbrev main_cst_87 : Ref sig .tc := ⟨.hbm, 599, rfl⟩
abbrev main_v420 : Ref sig .tc := ⟨.hbm, 600, rfl⟩
abbrev main_v421 : Ref sig .tc := ⟨.hbm, 601, rfl⟩
abbrev main_v422 : Ref sig .tc := ⟨.hbm, 602, rfl⟩
abbrev main_v423 : Ref sig .tc := ⟨.hbm, 603, rfl⟩
abbrev main_v424 : Ref sig .tc := ⟨.hbm, 604, rfl⟩
abbrev main_v425 : Ref sig .tc := ⟨.hbm, 605, rfl⟩
abbrev main_cst_88 : Ref sig .tc := ⟨.hbm, 606, rfl⟩
abbrev main_v426 : Ref sig .tc := ⟨.hbm, 607, rfl⟩
abbrev main_v427 : Ref sig .tc := ⟨.hbm, 608, rfl⟩
abbrev main_v428 : Ref sig .tc := ⟨.hbm, 609, rfl⟩
abbrev main_v429 : Ref sig .tc := ⟨.hbm, 610, rfl⟩
abbrev main_v430 : Ref sig .tc := ⟨.hbm, 611, rfl⟩
abbrev main_v431 : Ref sig .tc := ⟨.hbm, 612, rfl⟩
abbrev main_call13_cst : Ref sig .tc := ⟨.hbm, 613, rfl⟩
abbrev main_call13_v0 : Ref sig .tc := ⟨.hbm, 614, rfl⟩
abbrev main_call13_v1 : Ref sig .tc := ⟨.hbm, 615, rfl⟩
abbrev main_call13_cst_0 : Ref sig .tc := ⟨.hbm, 616, rfl⟩
abbrev main_call13_v2 : Ref sig .tc := ⟨.hbm, 617, rfl⟩
abbrev main_call13_v3 : Ref sig .tc := ⟨.hbm, 618, rfl⟩
abbrev main_call13_cst_1 : Ref sig .tc := ⟨.hbm, 619, rfl⟩
abbrev main_call13_call0_v0 : Ref sig .tc := ⟨.hbm, 620, rfl⟩
abbrev main_call13_call0_v1 : Ref sig .tc := ⟨.hbm, 621, rfl⟩
abbrev main_call13_v4 : Ref sig .tc := ⟨.hbm, 622, rfl⟩
abbrev main_call13_v5 : Ref sig .tc := ⟨.hbm, 623, rfl⟩
abbrev main_call13_cst_2 : Ref sig .tc := ⟨.hbm, 624, rfl⟩
abbrev main_call13_v6 : Ref sig .tc := ⟨.hbm, 625, rfl⟩
abbrev main_call13_v7 : Ref sig .tc := ⟨.hbm, 626, rfl⟩
abbrev main_v432 : Ref sig .tc := ⟨.hbm, 627, rfl⟩
abbrev main_v433 : Ref sig .tc := ⟨.hbm, 628, rfl⟩
abbrev main_v434 : Ref sig .tc := ⟨.hbm, 629, rfl⟩
abbrev main_v435 : Ref sig .tc := ⟨.hbm, 630, rfl⟩
abbrev main_v436 : Ref sig .tc := ⟨.hbm, 631, rfl⟩
abbrev main_v437 : Ref sig .tc := ⟨.hbm, 632, rfl⟩
abbrev main_cst_89 : Ref sig .tc := ⟨.hbm, 633, rfl⟩
abbrev main_v438 : Ref sig .tc := ⟨.hbm, 634, rfl⟩
abbrev main_v439 : Ref sig .tc := ⟨.hbm, 635, rfl⟩
abbrev main_v440 : Ref sig .tc := ⟨.hbm, 636, rfl⟩
abbrev main_v441 : Ref sig .tc := ⟨.hbm, 637, rfl⟩
abbrev main_v442 : Ref sig .tc := ⟨.hbm, 638, rfl⟩
abbrev main_v443 : Ref sig .tc := ⟨.hbm, 639, rfl⟩
abbrev main_v444 : Ref sig .tc := ⟨.hbm, 640, rfl⟩
abbrev main_v445 : Ref sig .tc := ⟨.hbm, 641, rfl⟩
abbrev main_v446 : Ref sig .tc := ⟨.hbm, 642, rfl⟩
abbrev main_v447 : Ref sig .tc := ⟨.hbm, 643, rfl⟩
abbrev main_v448 : Ref sig .tc := ⟨.hbm, 644, rfl⟩
abbrev main_v449 : Ref sig .tc := ⟨.hbm, 645, rfl⟩
abbrev main_c_90 : Ref sig .tc := ⟨.hbm, 646, rfl⟩
abbrev main_v450 : Ref sig .tc := ⟨.hbm, 647, rfl⟩
abbrev main_v451 : Ref sig .tc := ⟨.hbm, 648, rfl⟩
abbrev main_v452 : Ref sig .tc := ⟨.hbm, 649, rfl⟩
abbrev main_v453 : Ref sig .tc := ⟨.hbm, 650, rfl⟩
abbrev main_cst_91 : Ref sig .tc := ⟨.hbm, 651, rfl⟩
abbrev main_v454 : Ref sig .tc := ⟨.hbm, 652, rfl⟩
abbrev main_v455 : Ref sig .tc := ⟨.hbm, 653, rfl⟩
abbrev main_cst_92 : Ref sig .tc := ⟨.hbm, 654, rfl⟩
abbrev main_v456 : Ref sig .tc := ⟨.hbm, 655, rfl⟩
abbrev main_v457 : Ref sig .tc := ⟨.hbm, 656, rfl⟩
abbrev main_cst_93 : Ref sig .tc := ⟨.hbm, 657, rfl⟩
abbrev main_call14_v0 : Ref sig .tc := ⟨.hbm, 658, rfl⟩
abbrev main_call14_v1 : Ref sig .tc := ⟨.hbm, 659, rfl⟩
abbrev main_v458 : Ref sig .tc := ⟨.hbm, 660, rfl⟩
abbrev main_v459 : Ref sig .tc := ⟨.hbm, 661, rfl⟩
abbrev main_v460 : Ref sig .tc := ⟨.hbm, 662, rfl⟩
abbrev main_v461 : Ref sig .tc := ⟨.hbm, 663, rfl⟩
abbrev main_cst_94 : Ref sig .tc := ⟨.hbm, 664, rfl⟩
abbrev main_v462 : Ref sig .tc := ⟨.hbm, 665, rfl⟩
abbrev main_v463 : Ref sig .tc := ⟨.hbm, 666, rfl⟩
abbrev main_v464 : Ref sig .tc := ⟨.hbm, 667, rfl⟩
abbrev main_v465 : Ref sig .tc := ⟨.hbm, 668, rfl⟩
abbrev main_v466 : Ref sig .tc := ⟨.hbm, 669, rfl⟩
abbrev main_cst_95 : Ref sig .tc := ⟨.hbm, 670, rfl⟩
abbrev main_v467 : Ref sig .tc := ⟨.hbm, 671, rfl⟩
abbrev main_v468 : Ref sig .tc := ⟨.hbm, 672, rfl⟩
abbrev main_v469 : Ref sig .tc := ⟨.hbm, 673, rfl⟩
abbrev main_v470 : Ref sig .tc := ⟨.hbm, 674, rfl⟩
abbrev main_cst_96 : Ref sig .tc := ⟨.hbm, 675, rfl⟩
abbrev main_v471 : Ref sig .tc := ⟨.hbm, 676, rfl⟩
abbrev main_v472 : Ref sig .tc := ⟨.hbm, 677, rfl⟩
abbrev main_v473 : Ref sig .tc := ⟨.hbm, 678, rfl⟩
abbrev main_v474 : Ref sig .tc := ⟨.hbm, 679, rfl⟩
abbrev main_v475 : Ref sig .tc := ⟨.hbm, 680, rfl⟩
abbrev main_v476 : Ref sig .tc := ⟨.hbm, 681, rfl⟩
abbrev main_v477 : Ref sig .tc := ⟨.hbm, 682, rfl⟩
abbrev main_v478 : Ref sig .tc := ⟨.hbm, 683, rfl⟩
abbrev main_v479 : Ref sig .tc := ⟨.hbm, 684, rfl⟩
abbrev main_v480 : Ref sig .tc := ⟨.hbm, 685, rfl⟩
abbrev main_v481 : Ref sig .tc := ⟨.hbm, 686, rfl⟩
abbrev main_v482 : Ref sig .tc := ⟨.hbm, 687, rfl⟩
abbrev main_v483 : Ref sig .tc := ⟨.hbm, 688, rfl⟩
abbrev main_cst_97 : Ref sig .tc := ⟨.hbm, 689, rfl⟩
abbrev main_call15_cst : Ref sig .tc := ⟨.hbm, 690, rfl⟩
abbrev main_call15_v0 : Ref sig .tc := ⟨.hbm, 691, rfl⟩
abbrev main_call15_v1 : Ref sig .tc := ⟨.hbm, 692, rfl⟩
abbrev main_call15_v2 : Ref sig .tc := ⟨.hbm, 693, rfl⟩
abbrev main_call15_v3 : Ref sig .tc := ⟨.hbm, 694, rfl⟩
abbrev main_call15_v4 : Ref sig .tc := ⟨.hbm, 695, rfl⟩
abbrev main_v484 : Ref sig .tc := ⟨.hbm, 696, rfl⟩
abbrev main_cst_98 : Ref sig .tc := ⟨.hbm, 697, rfl⟩
abbrev main_v485 : Ref sig .tc := ⟨.hbm, 698, rfl⟩
abbrev main_v486 : Ref sig .tc := ⟨.hbm, 699, rfl⟩
abbrev main_v487 : Ref sig .tc := ⟨.hbm, 700, rfl⟩
abbrev main_cst_99 : Ref sig .tc := ⟨.hbm, 701, rfl⟩
abbrev main_v488 : Ref sig .tc := ⟨.hbm, 702, rfl⟩
abbrev main_cst_100 : Ref sig .tc := ⟨.hbm, 703, rfl⟩
abbrev main_v489 : Ref sig .tc := ⟨.hbm, 704, rfl⟩
abbrev main_v490 : Ref sig .tc := ⟨.hbm, 705, rfl⟩
abbrev main_v491 : Ref sig .tc := ⟨.hbm, 706, rfl⟩
abbrev main_v492 : Ref sig .tc := ⟨.hbm, 707, rfl⟩
abbrev main_cst_101 : Ref sig .tc := ⟨.hbm, 708, rfl⟩
abbrev main_v493 : Ref sig .tc := ⟨.hbm, 709, rfl⟩
abbrev main_v494 : Ref sig .tc := ⟨.hbm, 710, rfl⟩
abbrev main_v495 : Ref sig .tc := ⟨.hbm, 711, rfl⟩
abbrev main_cst_102 : Ref sig .tc := ⟨.hbm, 712, rfl⟩
abbrev main_v496 : Ref sig .tc := ⟨.hbm, 713, rfl⟩
abbrev main_v497 : Ref sig .tc := ⟨.hbm, 714, rfl⟩
abbrev main_v498 : Ref sig .tc := ⟨.hbm, 715, rfl⟩
abbrev main_v499 : Ref sig .tc := ⟨.hbm, 716, rfl⟩
abbrev main_cst_103 : Ref sig .tc := ⟨.hbm, 717, rfl⟩
abbrev main_call16_v0 : Ref sig .tc := ⟨.hbm, 718, rfl⟩
abbrev main_call16_v1 : Ref sig .tc := ⟨.hbm, 719, rfl⟩
abbrev main_v500 : Ref sig .tc := ⟨.hbm, 720, rfl⟩
abbrev main_cst_104 : Ref sig .tc := ⟨.hbm, 721, rfl⟩
abbrev main_v501 : Ref sig .tc := ⟨.hbm, 722, rfl⟩
abbrev main_cst_105 : Ref sig .tc := ⟨.hbm, 723, rfl⟩
abbrev main_v502 : Ref sig .tc := ⟨.hbm, 724, rfl⟩
abbrev main_v503 : Ref sig .tc := ⟨.hbm, 725, rfl⟩
abbrev main_v504 : Ref sig .tc := ⟨.hbm, 726, rfl⟩
abbrev main_v505 : Ref sig .tc := ⟨.hbm, 727, rfl⟩
abbrev main_v506 : Ref sig .tc := ⟨.hbm, 728, rfl⟩
abbrev main_v507 : Ref sig .tc := ⟨.hbm, 729, rfl⟩
abbrev main_cst_106 : Ref sig .tc := ⟨.hbm, 730, rfl⟩
abbrev main_v508 : Ref sig .tc := ⟨.hbm, 731, rfl⟩
abbrev main_v509 : Ref sig .tc := ⟨.hbm, 732, rfl⟩
abbrev main_v510 : Ref sig .tc := ⟨.hbm, 733, rfl⟩
abbrev main_v511 : Ref sig .tc := ⟨.hbm, 734, rfl⟩
abbrev main_v512 : Ref sig .tc := ⟨.hbm, 735, rfl⟩
abbrev main_v513 : Ref sig .tc := ⟨.hbm, 736, rfl⟩
abbrev main_call17_cst : Ref sig .tc := ⟨.hbm, 737, rfl⟩
abbrev main_call17_v0 : Ref sig .tc := ⟨.hbm, 738, rfl⟩
abbrev main_call17_v1 : Ref sig .tc := ⟨.hbm, 739, rfl⟩
abbrev main_call17_cst_0 : Ref sig .tc := ⟨.hbm, 740, rfl⟩
abbrev main_call17_v2 : Ref sig .tc := ⟨.hbm, 741, rfl⟩
abbrev main_call17_v3 : Ref sig .tc := ⟨.hbm, 742, rfl⟩
abbrev main_call17_cst_1 : Ref sig .tc := ⟨.hbm, 743, rfl⟩
abbrev main_call17_call0_v0 : Ref sig .tc := ⟨.hbm, 744, rfl⟩
abbrev main_call17_call0_v1 : Ref sig .tc := ⟨.hbm, 745, rfl⟩
abbrev main_call17_v4 : Ref sig .tc := ⟨.hbm, 746, rfl⟩
abbrev main_call17_v5 : Ref sig .tc := ⟨.hbm, 747, rfl⟩
abbrev main_call17_cst_2 : Ref sig .tc := ⟨.hbm, 748, rfl⟩
abbrev main_call17_v6 : Ref sig .tc := ⟨.hbm, 749, rfl⟩
abbrev main_call17_v7 : Ref sig .tc := ⟨.hbm, 750, rfl⟩
abbrev main_v514 : Ref sig .tc := ⟨.hbm, 751, rfl⟩
abbrev main_v515 : Ref sig .tc := ⟨.hbm, 752, rfl⟩
abbrev main_v516 : Ref sig .tc := ⟨.hbm, 753, rfl⟩
abbrev main_v517 : Ref sig .tc := ⟨.hbm, 754, rfl⟩
abbrev main_v518 : Ref sig .tc := ⟨.hbm, 755, rfl⟩
abbrev main_v519 : Ref sig .tc := ⟨.hbm, 756, rfl⟩
abbrev main_v520 : Ref sig .tc := ⟨.hbm, 757, rfl⟩
abbrev main_v521 : Ref sig .tc := ⟨.hbm, 758, rfl⟩
abbrev main_v522 : Ref sig .tc := ⟨.hbm, 759, rfl⟩
abbrev main_v523 : Ref sig .tc := ⟨.hbm, 760, rfl⟩
abbrev main_v524 : Ref sig .tc := ⟨.hbm, 761, rfl⟩
abbrev main_v525 : Ref sig .tc := ⟨.hbm, 762, rfl⟩
abbrev main_cst_107 : Ref sig .tc := ⟨.hbm, 763, rfl⟩
abbrev main_call18_cst : Ref sig .tc := ⟨.hbm, 764, rfl⟩
abbrev main_call18_v0 : Ref sig .tc := ⟨.hbm, 765, rfl⟩
abbrev main_call18_v1 : Ref sig .tc := ⟨.hbm, 766, rfl⟩
abbrev main_call18_v2 : Ref sig .tc := ⟨.hbm, 767, rfl⟩
abbrev main_call18_v3 : Ref sig .tc := ⟨.hbm, 768, rfl⟩
abbrev main_call18_v4 : Ref sig .tc := ⟨.hbm, 769, rfl⟩
abbrev main_v526 : Ref sig .tc := ⟨.hbm, 770, rfl⟩
abbrev main_cst_108 : Ref sig .tc := ⟨.hbm, 771, rfl⟩
abbrev main_v527 : Ref sig .tc := ⟨.hbm, 772, rfl⟩
abbrev main_v528 : Ref sig .tc := ⟨.hbm, 773, rfl⟩
abbrev main_v529 : Ref sig .tc := ⟨.hbm, 774, rfl⟩
abbrev main_cst_109 : Ref sig .tc := ⟨.hbm, 775, rfl⟩
abbrev main_v530 : Ref sig .tc := ⟨.hbm, 776, rfl⟩
abbrev main_cst_110 : Ref sig .tc := ⟨.hbm, 777, rfl⟩
abbrev main_v531 : Ref sig .tc := ⟨.hbm, 778, rfl⟩
abbrev main_v532 : Ref sig .tc := ⟨.hbm, 779, rfl⟩
abbrev main_v533 : Ref sig .tc := ⟨.hbm, 780, rfl⟩
abbrev main_v534 : Ref sig .tc := ⟨.hbm, 781, rfl⟩
abbrev main_cst_111 : Ref sig .tc := ⟨.hbm, 782, rfl⟩
abbrev main_v535 : Ref sig .tc := ⟨.hbm, 783, rfl⟩
abbrev main_v536 : Ref sig .tc := ⟨.hbm, 784, rfl⟩
abbrev main_v537 : Ref sig .tc := ⟨.hbm, 785, rfl⟩
abbrev main_cst_112 : Ref sig .tc := ⟨.hbm, 786, rfl⟩
abbrev main_v538 : Ref sig .tc := ⟨.hbm, 787, rfl⟩
abbrev main_v539 : Ref sig .tc := ⟨.hbm, 788, rfl⟩
abbrev main_v540 : Ref sig .tc := ⟨.hbm, 789, rfl⟩
abbrev main_v541 : Ref sig .tc := ⟨.hbm, 790, rfl⟩
abbrev main_cst_113 : Ref sig .tc := ⟨.hbm, 791, rfl⟩
abbrev main_call19_v0 : Ref sig .tc := ⟨.hbm, 792, rfl⟩
abbrev main_call19_v1 : Ref sig .tc := ⟨.hbm, 793, rfl⟩
abbrev main_v542 : Ref sig .tc := ⟨.hbm, 794, rfl⟩
abbrev main_cst_114 : Ref sig .tc := ⟨.hbm, 795, rfl⟩
abbrev main_v543 : Ref sig .tc := ⟨.hbm, 796, rfl⟩
abbrev main_cst_115 : Ref sig .tc := ⟨.hbm, 797, rfl⟩
abbrev main_v544 : Ref sig .tc := ⟨.hbm, 798, rfl⟩
abbrev main_v545 : Ref sig .tc := ⟨.hbm, 799, rfl⟩
abbrev main_v546 : Ref sig .tc := ⟨.hbm, 800, rfl⟩
abbrev main_v547 : Ref sig .tc := ⟨.hbm, 801, rfl⟩
abbrev main_v548 : Ref sig .tc := ⟨.hbm, 802, rfl⟩
abbrev main_v549 : Ref sig .tc := ⟨.hbm, 803, rfl⟩
abbrev main_cst_116 : Ref sig .tc := ⟨.hbm, 804, rfl⟩
abbrev main_v550 : Ref sig .tc := ⟨.hbm, 805, rfl⟩
abbrev main_v551 : Ref sig .tc := ⟨.hbm, 806, rfl⟩
abbrev main_v552 : Ref sig .tc := ⟨.hbm, 807, rfl⟩
abbrev main_v553 : Ref sig .tc := ⟨.hbm, 808, rfl⟩
abbrev main_v554 : Ref sig .tc := ⟨.hbm, 809, rfl⟩
abbrev main_v555 : Ref sig .tc := ⟨.hbm, 810, rfl⟩
abbrev main_call20_cst : Ref sig .tc := ⟨.hbm, 811, rfl⟩
abbrev main_call20_v0 : Ref sig .tc := ⟨.hbm, 812, rfl⟩
abbrev main_call20_v1 : Ref sig .tc := ⟨.hbm, 813, rfl⟩
abbrev main_call20_cst_0 : Ref sig .tc := ⟨.hbm, 814, rfl⟩
abbrev main_call20_v2 : Ref sig .tc := ⟨.hbm, 815, rfl⟩
abbrev main_call20_v3 : Ref sig .tc := ⟨.hbm, 816, rfl⟩
abbrev main_call20_cst_1 : Ref sig .tc := ⟨.hbm, 817, rfl⟩
abbrev main_call20_call0_v0 : Ref sig .tc := ⟨.hbm, 818, rfl⟩
abbrev main_call20_call0_v1 : Ref sig .tc := ⟨.hbm, 819, rfl⟩
abbrev main_call20_v4 : Ref sig .tc := ⟨.hbm, 820, rfl⟩
abbrev main_call20_v5 : Ref sig .tc := ⟨.hbm, 821, rfl⟩
abbrev main_call20_cst_2 : Ref sig .tc := ⟨.hbm, 822, rfl⟩
abbrev main_call20_v6 : Ref sig .tc := ⟨.hbm, 823, rfl⟩
abbrev main_call20_v7 : Ref sig .tc := ⟨.hbm, 824, rfl⟩
abbrev main_v556 : Ref sig .tc := ⟨.hbm, 825, rfl⟩
abbrev main_v557 : Ref sig .tc := ⟨.hbm, 826, rfl⟩
abbrev main_v558 : Ref sig .tc := ⟨.hbm, 827, rfl⟩
abbrev main_v559 : Ref sig .tc := ⟨.hbm, 828, rfl⟩
abbrev main_v560 : Ref sig .tc := ⟨.hbm, 829, rfl⟩
abbrev main_v561 : Ref sig .tc := ⟨.hbm, 830, rfl⟩
abbrev main_cst_117 : Ref sig .tc := ⟨.hbm, 831, rfl⟩
abbrev main_v562 : Ref sig .tc := ⟨.hbm, 832, rfl⟩
abbrev main_v563 : Ref sig .tc := ⟨.hbm, 833, rfl⟩
abbrev main_v564 : Ref sig .tc := ⟨.hbm, 834, rfl⟩
abbrev main_v565 : Ref sig .tc := ⟨.hbm, 835, rfl⟩
abbrev main_v566 : Ref sig .tc := ⟨.hbm, 836, rfl⟩
abbrev main_v567 : Ref sig .tc := ⟨.hbm, 837, rfl⟩
abbrev main_v568 : Ref sig .tc := ⟨.hbm, 838, rfl⟩
abbrev main_v569 : Ref sig .tc := ⟨.hbm, 839, rfl⟩
abbrev main_v570 : Ref sig .tc := ⟨.hbm, 840, rfl⟩
abbrev main_v571 : Ref sig .tc := ⟨.hbm, 841, rfl⟩
abbrev main_v572 : Ref sig .tc := ⟨.hbm, 842, rfl⟩
abbrev main_v573 : Ref sig .tc := ⟨.hbm, 843, rfl⟩
abbrev main_c_118 : Ref sig .tc := ⟨.hbm, 844, rfl⟩
abbrev main_v574 : Ref sig .tc := ⟨.hbm, 845, rfl⟩
abbrev main_v575 : Ref sig .tc := ⟨.hbm, 846, rfl⟩
abbrev main_v576 : Ref sig .tc := ⟨.hbm, 847, rfl⟩
abbrev main_v577 : Ref sig .tc := ⟨.hbm, 848, rfl⟩
abbrev main_cst_119 : Ref sig .tc := ⟨.hbm, 849, rfl⟩
abbrev main_v578 : Ref sig .tc := ⟨.hbm, 850, rfl⟩
abbrev main_v579 : Ref sig .tc := ⟨.hbm, 851, rfl⟩
abbrev main_cst_120 : Ref sig .tc := ⟨.hbm, 852, rfl⟩
abbrev main_v580 : Ref sig .tc := ⟨.hbm, 853, rfl⟩
abbrev main_v581 : Ref sig .tc := ⟨.hbm, 854, rfl⟩
abbrev main_cst_121 : Ref sig .tc := ⟨.hbm, 855, rfl⟩
abbrev main_call21_v0 : Ref sig .tc := ⟨.hbm, 856, rfl⟩
abbrev main_call21_v1 : Ref sig .tc := ⟨.hbm, 857, rfl⟩
abbrev main_v582 : Ref sig .tc := ⟨.hbm, 858, rfl⟩
abbrev main_v583 : Ref sig .tc := ⟨.hbm, 859, rfl⟩
abbrev main_v584 : Ref sig .tc := ⟨.hbm, 860, rfl⟩
abbrev main_v585 : Ref sig .tc := ⟨.hbm, 861, rfl⟩
abbrev main_cst_122 : Ref sig .tc := ⟨.hbm, 862, rfl⟩
abbrev main_v586 : Ref sig .tc := ⟨.hbm, 863, rfl⟩
abbrev main_v587 : Ref sig .tc := ⟨.hbm, 864, rfl⟩
abbrev main_v588 : Ref sig .tc := ⟨.hbm, 865, rfl⟩
abbrev main_v589 : Ref sig .tc := ⟨.hbm, 866, rfl⟩
abbrev main_v590 : Ref sig .tc := ⟨.hbm, 867, rfl⟩
abbrev main_cst_123 : Ref sig .tc := ⟨.hbm, 868, rfl⟩
abbrev main_v591 : Ref sig .tc := ⟨.hbm, 869, rfl⟩
abbrev main_v592 : Ref sig .tc := ⟨.hbm, 870, rfl⟩
abbrev main_v593 : Ref sig .tc := ⟨.hbm, 871, rfl⟩
abbrev main_v594 : Ref sig .tc := ⟨.hbm, 872, rfl⟩
abbrev main_cst_124 : Ref sig .tc := ⟨.hbm, 873, rfl⟩
abbrev main_v595 : Ref sig .tc := ⟨.hbm, 874, rfl⟩
abbrev main_v596 : Ref sig .tc := ⟨.hbm, 875, rfl⟩
abbrev main_v597 : Ref sig .tc := ⟨.hbm, 876, rfl⟩
abbrev main_v598 : Ref sig .tc := ⟨.hbm, 877, rfl⟩
abbrev main_v599 : Ref sig .tc := ⟨.hbm, 878, rfl⟩
abbrev main_v600 : Ref sig .tc := ⟨.hbm, 879, rfl⟩
abbrev main_v601 : Ref sig .tc := ⟨.hbm, 880, rfl⟩
abbrev main_v602 : Ref sig .tc := ⟨.hbm, 881, rfl⟩
abbrev main_v603 : Ref sig .tc := ⟨.hbm, 882, rfl⟩
abbrev main_v604 : Ref sig .tc := ⟨.hbm, 883, rfl⟩
abbrev main_v605 : Ref sig .tc := ⟨.hbm, 884, rfl⟩
abbrev main_v606 : Ref sig .tc := ⟨.hbm, 885, rfl⟩
abbrev main_v607 : Ref sig .tc := ⟨.hbm, 886, rfl⟩
abbrev main_cst_125 : Ref sig .tc := ⟨.hbm, 887, rfl⟩
abbrev main_call22_cst : Ref sig .tc := ⟨.hbm, 888, rfl⟩
abbrev main_call22_v0 : Ref sig .tc := ⟨.hbm, 889, rfl⟩
abbrev main_call22_v1 : Ref sig .tc := ⟨.hbm, 890, rfl⟩
abbrev main_call22_v2 : Ref sig .tc := ⟨.hbm, 891, rfl⟩
abbrev main_call22_v3 : Ref sig .tc := ⟨.hbm, 892, rfl⟩
abbrev main_call22_v4 : Ref sig .tc := ⟨.hbm, 893, rfl⟩
abbrev main_v608 : Ref sig .tc := ⟨.hbm, 894, rfl⟩
abbrev main_cst_126 : Ref sig .tc := ⟨.hbm, 895, rfl⟩
abbrev main_v609 : Ref sig .tc := ⟨.hbm, 896, rfl⟩
abbrev main_v610 : Ref sig .tc := ⟨.hbm, 897, rfl⟩
abbrev main_v611 : Ref sig .tc := ⟨.hbm, 898, rfl⟩
abbrev main_cst_127 : Ref sig .tc := ⟨.hbm, 899, rfl⟩
abbrev main_v612 : Ref sig .tc := ⟨.hbm, 900, rfl⟩
abbrev main_cst_128 : Ref sig .tc := ⟨.hbm, 901, rfl⟩
abbrev main_v613 : Ref sig .tc := ⟨.hbm, 902, rfl⟩
abbrev main_v614 : Ref sig .tc := ⟨.hbm, 903, rfl⟩
abbrev main_v615 : Ref sig .tc := ⟨.hbm, 904, rfl⟩
abbrev main_v616 : Ref sig .tc := ⟨.hbm, 905, rfl⟩
abbrev main_cst_129 : Ref sig .tc := ⟨.hbm, 906, rfl⟩
abbrev main_v617 : Ref sig .tc := ⟨.hbm, 907, rfl⟩
abbrev main_v618 : Ref sig .tc := ⟨.hbm, 908, rfl⟩
abbrev main_v619 : Ref sig .tc := ⟨.hbm, 909, rfl⟩
abbrev main_cst_130 : Ref sig .tc := ⟨.hbm, 910, rfl⟩
abbrev main_v620 : Ref sig .tc := ⟨.hbm, 911, rfl⟩
abbrev main_v621 : Ref sig .tc := ⟨.hbm, 912, rfl⟩
abbrev main_v622 : Ref sig .tc := ⟨.hbm, 913, rfl⟩
abbrev main_v623 : Ref sig .tc := ⟨.hbm, 914, rfl⟩
abbrev main_cst_131 : Ref sig .tc := ⟨.hbm, 915, rfl⟩
abbrev main_call23_v0 : Ref sig .tc := ⟨.hbm, 916, rfl⟩
abbrev main_call23_v1 : Ref sig .tc := ⟨.hbm, 917, rfl⟩
abbrev main_v624 : Ref sig .tc := ⟨.hbm, 918, rfl⟩
abbrev main_cst_132 : Ref sig .tc := ⟨.hbm, 919, rfl⟩
abbrev main_v625 : Ref sig .tc := ⟨.hbm, 920, rfl⟩
abbrev main_cst_133 : Ref sig .tc := ⟨.hbm, 921, rfl⟩
abbrev main_v626 : Ref sig .tc := ⟨.hbm, 922, rfl⟩
abbrev main_v627 : Ref sig .tc := ⟨.hbm, 923, rfl⟩
abbrev main_v628 : Ref sig .tc := ⟨.hbm, 924, rfl⟩
abbrev main_v629 : Ref sig .tc := ⟨.hbm, 925, rfl⟩
abbrev main_v630 : Ref sig .tc := ⟨.hbm, 926, rfl⟩
abbrev main_v631 : Ref sig .tc := ⟨.hbm, 927, rfl⟩
abbrev main_cst_134 : Ref sig .tc := ⟨.hbm, 928, rfl⟩
abbrev main_v632 : Ref sig .tc := ⟨.hbm, 929, rfl⟩
abbrev main_v633 : Ref sig .tc := ⟨.hbm, 930, rfl⟩
abbrev main_v634 : Ref sig .tc := ⟨.hbm, 931, rfl⟩
abbrev main_v635 : Ref sig .tc := ⟨.hbm, 932, rfl⟩
abbrev main_v636 : Ref sig .tc := ⟨.hbm, 933, rfl⟩
abbrev main_v637 : Ref sig .tc := ⟨.hbm, 934, rfl⟩
abbrev main_call24_cst : Ref sig .tc := ⟨.hbm, 935, rfl⟩
abbrev main_call24_v0 : Ref sig .tc := ⟨.hbm, 936, rfl⟩
abbrev main_call24_v1 : Ref sig .tc := ⟨.hbm, 937, rfl⟩
abbrev main_call24_cst_0 : Ref sig .tc := ⟨.hbm, 938, rfl⟩
abbrev main_call24_v2 : Ref sig .tc := ⟨.hbm, 939, rfl⟩
abbrev main_call24_v3 : Ref sig .tc := ⟨.hbm, 940, rfl⟩
abbrev main_call24_cst_1 : Ref sig .tc := ⟨.hbm, 941, rfl⟩
abbrev main_call24_call0_v0 : Ref sig .tc := ⟨.hbm, 942, rfl⟩
abbrev main_call24_call0_v1 : Ref sig .tc := ⟨.hbm, 943, rfl⟩
abbrev main_call24_v4 : Ref sig .tc := ⟨.hbm, 944, rfl⟩
abbrev main_call24_v5 : Ref sig .tc := ⟨.hbm, 945, rfl⟩
abbrev main_call24_cst_2 : Ref sig .tc := ⟨.hbm, 946, rfl⟩
abbrev main_call24_v6 : Ref sig .tc := ⟨.hbm, 947, rfl⟩
abbrev main_call24_v7 : Ref sig .tc := ⟨.hbm, 948, rfl⟩
abbrev main_v638 : Ref sig .tc := ⟨.hbm, 949, rfl⟩
abbrev main_v639 : Ref sig .tc := ⟨.hbm, 950, rfl⟩
abbrev main_v640 : Ref sig .tc := ⟨.hbm, 951, rfl⟩
abbrev main_v641 : Ref sig .tc := ⟨.hbm, 952, rfl⟩
abbrev main_v642 : Ref sig .tc := ⟨.hbm, 953, rfl⟩
abbrev main_v643 : Ref sig .tc := ⟨.hbm, 954, rfl⟩
abbrev main_v644 : Ref sig .tc := ⟨.hbm, 955, rfl⟩
abbrev main_v645 : Ref sig .tc := ⟨.hbm, 956, rfl⟩
abbrev main_v646 : Ref sig .tc := ⟨.hbm, 957, rfl⟩
abbrev main_v647 : Ref sig .tc := ⟨.hbm, 958, rfl⟩
abbrev main_v648 : Ref sig .tc := ⟨.hbm, 959, rfl⟩
abbrev main_v649 : Ref sig .tc := ⟨.hbm, 960, rfl⟩
abbrev main_cst_135 : Ref sig .tc := ⟨.hbm, 961, rfl⟩
abbrev main_call25_cst : Ref sig .tc := ⟨.hbm, 962, rfl⟩
abbrev main_call25_v0 : Ref sig .tc := ⟨.hbm, 963, rfl⟩
abbrev main_call25_v1 : Ref sig .tc := ⟨.hbm, 964, rfl⟩
abbrev main_call25_v2 : Ref sig .tc := ⟨.hbm, 965, rfl⟩
abbrev main_call25_v3 : Ref sig .tc := ⟨.hbm, 966, rfl⟩
abbrev main_call25_v4 : Ref sig .tc := ⟨.hbm, 967, rfl⟩
abbrev main_v650 : Ref sig .tc := ⟨.hbm, 968, rfl⟩
abbrev main_cst_136 : Ref sig .tc := ⟨.hbm, 969, rfl⟩
abbrev main_v651 : Ref sig .tc := ⟨.hbm, 970, rfl⟩
abbrev main_v652 : Ref sig .tc := ⟨.hbm, 971, rfl⟩
abbrev main_v653 : Ref sig .tc := ⟨.hbm, 972, rfl⟩
abbrev main_cst_137 : Ref sig .tc := ⟨.hbm, 973, rfl⟩
abbrev main_v654 : Ref sig .tc := ⟨.hbm, 974, rfl⟩
abbrev main_cst_138 : Ref sig .tc := ⟨.hbm, 975, rfl⟩
abbrev main_v655 : Ref sig .tc := ⟨.hbm, 976, rfl⟩
abbrev main_v656 : Ref sig .tc := ⟨.hbm, 977, rfl⟩
abbrev main_v657 : Ref sig .tc := ⟨.hbm, 978, rfl⟩
abbrev main_v658 : Ref sig .tc := ⟨.hbm, 979, rfl⟩
abbrev main_cst_139 : Ref sig .tc := ⟨.hbm, 980, rfl⟩
abbrev main_v659 : Ref sig .tc := ⟨.hbm, 981, rfl⟩
abbrev main_v660 : Ref sig .tc := ⟨.hbm, 982, rfl⟩
abbrev main_v661 : Ref sig .tc := ⟨.hbm, 983, rfl⟩
abbrev main_cst_140 : Ref sig .tc := ⟨.hbm, 984, rfl⟩
abbrev main_v662 : Ref sig .tc := ⟨.hbm, 985, rfl⟩
abbrev main_v663 : Ref sig .tc := ⟨.hbm, 986, rfl⟩
abbrev main_v664 : Ref sig .tc := ⟨.hbm, 987, rfl⟩
abbrev main_v665 : Ref sig .tc := ⟨.hbm, 988, rfl⟩
abbrev main_cst_141 : Ref sig .tc := ⟨.hbm, 989, rfl⟩
abbrev main_call26_v0 : Ref sig .tc := ⟨.hbm, 990, rfl⟩
abbrev main_call26_v1 : Ref sig .tc := ⟨.hbm, 991, rfl⟩
abbrev main_v666 : Ref sig .tc := ⟨.hbm, 992, rfl⟩
abbrev main_cst_142 : Ref sig .tc := ⟨.hbm, 993, rfl⟩
abbrev main_v667 : Ref sig .tc := ⟨.hbm, 994, rfl⟩
abbrev main_cst_143 : Ref sig .tc := ⟨.hbm, 995, rfl⟩
abbrev main_v668 : Ref sig .tc := ⟨.hbm, 996, rfl⟩
abbrev main_v669 : Ref sig .tc := ⟨.hbm, 997, rfl⟩
abbrev main_v670 : Ref sig .tc := ⟨.hbm, 998, rfl⟩
abbrev main_v671 : Ref sig .tc := ⟨.hbm, 999, rfl⟩
abbrev main_v672 : Ref sig .tc := ⟨.hbm, 1000, rfl⟩
abbrev main_v673 : Ref sig .tc := ⟨.hbm, 1001, rfl⟩
abbrev main_cst_144 : Ref sig .tc := ⟨.hbm, 1002, rfl⟩
abbrev main_v674 : Ref sig .tc := ⟨.hbm, 1003, rfl⟩
abbrev main_v675 : Ref sig .tc := ⟨.hbm, 1004, rfl⟩
abbrev main_v676 : Ref sig .tc := ⟨.hbm, 1005, rfl⟩
abbrev main_v677 : Ref sig .tc := ⟨.hbm, 1006, rfl⟩
abbrev main_v678 : Ref sig .tc := ⟨.hbm, 1007, rfl⟩
abbrev main_v679 : Ref sig .tc := ⟨.hbm, 1008, rfl⟩
abbrev main_call27_cst : Ref sig .tc := ⟨.hbm, 1009, rfl⟩
abbrev main_call27_v0 : Ref sig .tc := ⟨.hbm, 1010, rfl⟩
abbrev main_call27_v1 : Ref sig .tc := ⟨.hbm, 1011, rfl⟩
abbrev main_call27_cst_0 : Ref sig .tc := ⟨.hbm, 1012, rfl⟩
abbrev main_call27_v2 : Ref sig .tc := ⟨.hbm, 1013, rfl⟩
abbrev main_call27_v3 : Ref sig .tc := ⟨.hbm, 1014, rfl⟩
abbrev main_call27_cst_1 : Ref sig .tc := ⟨.hbm, 1015, rfl⟩
abbrev main_call27_call0_v0 : Ref sig .tc := ⟨.hbm, 1016, rfl⟩
abbrev main_call27_call0_v1 : Ref sig .tc := ⟨.hbm, 1017, rfl⟩
abbrev main_call27_v4 : Ref sig .tc := ⟨.hbm, 1018, rfl⟩
abbrev main_call27_v5 : Ref sig .tc := ⟨.hbm, 1019, rfl⟩
abbrev main_call27_cst_2 : Ref sig .tc := ⟨.hbm, 1020, rfl⟩
abbrev main_call27_v6 : Ref sig .tc := ⟨.hbm, 1021, rfl⟩
abbrev main_call27_v7 : Ref sig .tc := ⟨.hbm, 1022, rfl⟩
abbrev main_v680 : Ref sig .tc := ⟨.hbm, 1023, rfl⟩
abbrev main_v681 : Ref sig .tc := ⟨.hbm, 1024, rfl⟩
abbrev main_v682 : Ref sig .tc := ⟨.hbm, 1025, rfl⟩
abbrev main_v683 : Ref sig .tc := ⟨.hbm, 1026, rfl⟩
abbrev main_v684 : Ref sig .tc := ⟨.hbm, 1027, rfl⟩
abbrev main_v685 : Ref sig .tc := ⟨.hbm, 1028, rfl⟩
abbrev main_v686 : Ref sig .tc := ⟨.hbm, 1029, rfl⟩
abbrev main_v687 : Ref sig .tc := ⟨.hbm, 1030, rfl⟩
abbrev main_v688 : Ref sig .tc := ⟨.hbm, 1031, rfl⟩
abbrev main_v689 : Ref sig .tc := ⟨.hbm, 1032, rfl⟩
abbrev main_v690 : Ref sig .tc := ⟨.hbm, 1033, rfl⟩
abbrev main_cst_145 : Ref sig .tc := ⟨.hbm, 1034, rfl⟩
abbrev main_v691 : Ref sig .tc := ⟨.hbm, 1035, rfl⟩
abbrev main_v692 : Ref sig .tc := ⟨.hbm, 1036, rfl⟩
abbrev main_cst_146 : Ref sig .tc := ⟨.hbm, 1037, rfl⟩
abbrev main_v693 : Ref sig .tc := ⟨.hbm, 1038, rfl⟩
abbrev main_v694 : Ref sig .tc := ⟨.hbm, 1039, rfl⟩
abbrev main_v695 : Ref sig .tc := ⟨.hbm, 1040, rfl⟩
abbrev main_v696 : Ref sig .tc := ⟨.hbm, 1041, rfl⟩
abbrev main_v697 : Ref sig .tc := ⟨.hbm, 1042, rfl⟩
abbrev main_v698 : Ref sig .tc := ⟨.hbm, 1043, rfl⟩
abbrev main_v699 : Ref sig .tc := ⟨.hbm, 1044, rfl⟩
abbrev main_v700 : Ref sig .tc := ⟨.hbm, 1045, rfl⟩
abbrev main_v701 : Ref sig .tc := ⟨.hbm, 1046, rfl⟩
abbrev main_v702 : Ref sig .tc := ⟨.hbm, 1047, rfl⟩
abbrev main_v703 : Ref sig .tc := ⟨.hbm, 1048, rfl⟩
abbrev main_cst_147 : Ref sig .tc := ⟨.hbm, 1049, rfl⟩
abbrev main_v704 : Ref sig .tc := ⟨.hbm, 1050, rfl⟩
abbrev main_v705 : Ref sig .tc := ⟨.hbm, 1051, rfl⟩
abbrev main_cst_148 : Ref sig .tc := ⟨.hbm, 1052, rfl⟩
abbrev main_v706 : Ref sig .tc := ⟨.hbm, 1053, rfl⟩
abbrev main_v707 : Ref sig .tc := ⟨.hbm, 1054, rfl⟩
abbrev main_v708 : Ref sig .tc := ⟨.hbm, 1055, rfl⟩
abbrev main_v709 : Ref sig .tc := ⟨.hbm, 1056, rfl⟩
abbrev main_v710 : Ref sig .tc := ⟨.hbm, 1057, rfl⟩
abbrev main_v711 : Ref sig .tc := ⟨.hbm, 1058, rfl⟩
abbrev main_v712 : Ref sig .tc := ⟨.hbm, 1059, rfl⟩
abbrev main_v713 : Ref sig .tc := ⟨.hbm, 1060, rfl⟩
abbrev main_v714 : Ref sig .tc := ⟨.hbm, 1061, rfl⟩
abbrev main_v715 : Ref sig .tc := ⟨.hbm, 1062, rfl⟩
abbrev main_v716 : Ref sig .tc := ⟨.hbm, 1063, rfl⟩
abbrev main_cst_149 : Ref sig .tc := ⟨.hbm, 1064, rfl⟩
abbrev main_v717 : Ref sig .tc := ⟨.hbm, 1065, rfl⟩
abbrev main_v718 : Ref sig .tc := ⟨.hbm, 1066, rfl⟩
abbrev main_v719 : Ref sig .tc := ⟨.hbm, 1067, rfl⟩
abbrev main_v720 : Ref sig .tc := ⟨.hbm, 1068, rfl⟩
abbrev main_v721 : Ref sig .tc := ⟨.hbm, 1069, rfl⟩
abbrev main_v722 : Ref sig .tc := ⟨.hbm, 1070, rfl⟩
abbrev main_v723 : Ref sig .tc := ⟨.hbm, 1071, rfl⟩
abbrev main_v724 : Ref sig .tc := ⟨.hbm, 1072, rfl⟩
abbrev main_v725 : Ref sig .tc := ⟨.hbm, 1073, rfl⟩
abbrev main_v726 : Ref sig .tc := ⟨.hbm, 1074, rfl⟩
abbrev main_cst_150 : Ref sig .tc := ⟨.hbm, 1075, rfl⟩
abbrev main_v727 : Ref sig .tc := ⟨.hbm, 1076, rfl⟩
abbrev main_v728 : Ref sig .tc := ⟨.hbm, 1077, rfl⟩
abbrev main_v729 : Ref sig .tc := ⟨.hbm, 1078, rfl⟩
abbrev main_v730 : Ref sig .tc := ⟨.hbm, 1079, rfl⟩
abbrev main_v731 : Ref sig .tc := ⟨.hbm, 1080, rfl⟩
abbrev main_v732 : Ref sig .tc := ⟨.hbm, 1081, rfl⟩
abbrev main_v733 : Ref sig .tc := ⟨.hbm, 1082, rfl⟩
abbrev main_v734 : Ref sig .tc := ⟨.hbm, 1083, rfl⟩
abbrev main_v735 : Ref sig .tc := ⟨.hbm, 1084, rfl⟩
abbrev main_v736 : Ref sig .tc := ⟨.hbm, 1085, rfl⟩
abbrev main_v737 : Ref sig .tc := ⟨.hbm, 1086, rfl⟩
abbrev main_v738 : Ref sig .tc := ⟨.hbm, 1087, rfl⟩
abbrev main_c_151 : Ref sig .tc := ⟨.hbm, 1088, rfl⟩
abbrev main_v739 : Ref sig .tc := ⟨.hbm, 1089, rfl⟩
abbrev main_v740 : Ref sig .tc := ⟨.hbm, 1090, rfl⟩
abbrev main_v741 : Ref sig .tc := ⟨.hbm, 1091, rfl⟩
abbrev main_v742 : Ref sig .tc := ⟨.hbm, 1092, rfl⟩
abbrev main_cst_152 : Ref sig .tc := ⟨.hbm, 1093, rfl⟩
abbrev main_v743 : Ref sig .tc := ⟨.hbm, 1094, rfl⟩
abbrev main_v744 : Ref sig .tc := ⟨.hbm, 1095, rfl⟩
abbrev main_cst_153 : Ref sig .tc := ⟨.hbm, 1096, rfl⟩
abbrev main_v745 : Ref sig .tc := ⟨.hbm, 1097, rfl⟩
abbrev main_v746 : Ref sig .tc := ⟨.hbm, 1098, rfl⟩
abbrev main_cst_154 : Ref sig .tc := ⟨.hbm, 1099, rfl⟩
abbrev main_call28_v0 : Ref sig .tc := ⟨.hbm, 1100, rfl⟩
abbrev main_call28_v1 : Ref sig .tc := ⟨.hbm, 1101, rfl⟩
abbrev main_v747 : Ref sig .tc := ⟨.hbm, 1102, rfl⟩
abbrev main_v748 : Ref sig .tc := ⟨.hbm, 1103, rfl⟩
abbrev main_v749 : Ref sig .tc := ⟨.hbm, 1104, rfl⟩
abbrev main_v750 : Ref sig .tc := ⟨.hbm, 1105, rfl⟩
abbrev main_cst_155 : Ref sig .tc := ⟨.hbm, 1106, rfl⟩
abbrev main_v751 : Ref sig .tc := ⟨.hbm, 1107, rfl⟩
abbrev main_v752 : Ref sig .tc := ⟨.hbm, 1108, rfl⟩
abbrev main_v753 : Ref sig .tc := ⟨.hbm, 1109, rfl⟩
abbrev main_v754 : Ref sig .tc := ⟨.hbm, 1110, rfl⟩
abbrev main_v755 : Ref sig .tc := ⟨.hbm, 1111, rfl⟩
abbrev main_cst_156 : Ref sig .tc := ⟨.hbm, 1112, rfl⟩
abbrev main_v756 : Ref sig .tc := ⟨.hbm, 1113, rfl⟩
abbrev main_v757 : Ref sig .tc := ⟨.hbm, 1114, rfl⟩
abbrev main_v758 : Ref sig .tc := ⟨.hbm, 1115, rfl⟩
abbrev main_v759 : Ref sig .tc := ⟨.hbm, 1116, rfl⟩
abbrev main_cst_157 : Ref sig .tc := ⟨.hbm, 1117, rfl⟩
abbrev main_v760 : Ref sig .tc := ⟨.hbm, 1118, rfl⟩
abbrev main_v761 : Ref sig .tc := ⟨.hbm, 1119, rfl⟩
abbrev main_v762 : Ref sig .tc := ⟨.hbm, 1120, rfl⟩
abbrev main_v763 : Ref sig .tc := ⟨.hbm, 1121, rfl⟩
abbrev main_v764 : Ref sig .tc := ⟨.hbm, 1122, rfl⟩
abbrev main_v765 : Ref sig .tc := ⟨.hbm, 1123, rfl⟩
abbrev main_v766 : Ref sig .tc := ⟨.hbm, 1124, rfl⟩
abbrev main_v767 : Ref sig .tc := ⟨.hbm, 1125, rfl⟩
abbrev main_v768 : Ref sig .tc := ⟨.hbm, 1126, rfl⟩
abbrev main_v769 : Ref sig .tc := ⟨.hbm, 1127, rfl⟩
abbrev main_v770 : Ref sig .tc := ⟨.hbm, 1128, rfl⟩
abbrev main_v771 : Ref sig .tc := ⟨.hbm, 1129, rfl⟩
abbrev main_v772 : Ref sig .tc := ⟨.hbm, 1130, rfl⟩
abbrev main_cst_158 : Ref sig .tc := ⟨.hbm, 1131, rfl⟩
abbrev main_call29_cst : Ref sig .tc := ⟨.hbm, 1132, rfl⟩
abbrev main_call29_v0 : Ref sig .tc := ⟨.hbm, 1133, rfl⟩
abbrev main_call29_v1 : Ref sig .tc := ⟨.hbm, 1134, rfl⟩
abbrev main_call29_v2 : Ref sig .tc := ⟨.hbm, 1135, rfl⟩
abbrev main_call29_v3 : Ref sig .tc := ⟨.hbm, 1136, rfl⟩
abbrev main_call29_v4 : Ref sig .tc := ⟨.hbm, 1137, rfl⟩
abbrev main_v773 : Ref sig .tc := ⟨.hbm, 1138, rfl⟩
abbrev main_cst_159 : Ref sig .tc := ⟨.hbm, 1139, rfl⟩
abbrev main_v774 : Ref sig .tc := ⟨.hbm, 1140, rfl⟩
abbrev main_v775 : Ref sig .tc := ⟨.hbm, 1141, rfl⟩
abbrev main_v776 : Ref sig .tc := ⟨.hbm, 1142, rfl⟩
abbrev main_cst_160 : Ref sig .tc := ⟨.hbm, 1143, rfl⟩
abbrev main_v777 : Ref sig .tc := ⟨.hbm, 1144, rfl⟩
abbrev main_cst_161 : Ref sig .tc := ⟨.hbm, 1145, rfl⟩
abbrev main_v778 : Ref sig .tc := ⟨.hbm, 1146, rfl⟩
abbrev main_v779 : Ref sig .tc := ⟨.hbm, 1147, rfl⟩
abbrev main_v780 : Ref sig .tc := ⟨.hbm, 1148, rfl⟩
abbrev main_v781 : Ref sig .tc := ⟨.hbm, 1149, rfl⟩
abbrev main_cst_162 : Ref sig .tc := ⟨.hbm, 1150, rfl⟩
abbrev main_v782 : Ref sig .tc := ⟨.hbm, 1151, rfl⟩
abbrev main_v783 : Ref sig .tc := ⟨.hbm, 1152, rfl⟩
abbrev main_v784 : Ref sig .tc := ⟨.hbm, 1153, rfl⟩
abbrev main_cst_163 : Ref sig .tc := ⟨.hbm, 1154, rfl⟩
abbrev main_v785 : Ref sig .tc := ⟨.hbm, 1155, rfl⟩
abbrev main_v786 : Ref sig .tc := ⟨.hbm, 1156, rfl⟩
abbrev main_v787 : Ref sig .tc := ⟨.hbm, 1157, rfl⟩
abbrev main_v788 : Ref sig .tc := ⟨.hbm, 1158, rfl⟩
abbrev main_cst_164 : Ref sig .tc := ⟨.hbm, 1159, rfl⟩
abbrev main_call30_v0 : Ref sig .tc := ⟨.hbm, 1160, rfl⟩
abbrev main_call30_v1 : Ref sig .tc := ⟨.hbm, 1161, rfl⟩
abbrev main_v789 : Ref sig .tc := ⟨.hbm, 1162, rfl⟩
abbrev main_cst_165 : Ref sig .tc := ⟨.hbm, 1163, rfl⟩
abbrev main_v790 : Ref sig .tc := ⟨.hbm, 1164, rfl⟩
abbrev main_cst_166 : Ref sig .tc := ⟨.hbm, 1165, rfl⟩
abbrev main_v791 : Ref sig .tc := ⟨.hbm, 1166, rfl⟩
abbrev main_v792 : Ref sig .tc := ⟨.hbm, 1167, rfl⟩
abbrev main_v793 : Ref sig .tc := ⟨.hbm, 1168, rfl⟩
abbrev main_v794 : Ref sig .tc := ⟨.hbm, 1169, rfl⟩
abbrev main_v795 : Ref sig .tc := ⟨.hbm, 1170, rfl⟩
abbrev main_v796 : Ref sig .tc := ⟨.hbm, 1171, rfl⟩
abbrev main_cst_167 : Ref sig .tc := ⟨.hbm, 1172, rfl⟩
abbrev main_v797 : Ref sig .tc := ⟨.hbm, 1173, rfl⟩
abbrev main_v798 : Ref sig .tc := ⟨.hbm, 1174, rfl⟩
abbrev main_v799 : Ref sig .tc := ⟨.hbm, 1175, rfl⟩
abbrev main_v800 : Ref sig .tc := ⟨.hbm, 1176, rfl⟩
abbrev main_v801 : Ref sig .tc := ⟨.hbm, 1177, rfl⟩
abbrev main_v802 : Ref sig .tc := ⟨.hbm, 1178, rfl⟩
abbrev main_call31_cst : Ref sig .tc := ⟨.hbm, 1179, rfl⟩
abbrev main_call31_v0 : Ref sig .tc := ⟨.hbm, 1180, rfl⟩
abbrev main_call31_v1 : Ref sig .tc := ⟨.hbm, 1181, rfl⟩
abbrev main_call31_cst_0 : Ref sig .tc := ⟨.hbm, 1182, rfl⟩
abbrev main_call31_v2 : Ref sig .tc := ⟨.hbm, 1183, rfl⟩
abbrev main_call31_v3 : Ref sig .tc := ⟨.hbm, 1184, rfl⟩
abbrev main_call31_cst_1 : Ref sig .tc := ⟨.hbm, 1185, rfl⟩
abbrev main_call31_call0_v0 : Ref sig .tc := ⟨.hbm, 1186, rfl⟩
abbrev main_call31_call0_v1 : Ref sig .tc := ⟨.hbm, 1187, rfl⟩
abbrev main_call31_v4 : Ref sig .tc := ⟨.hbm, 1188, rfl⟩
abbrev main_call31_v5 : Ref sig .tc := ⟨.hbm, 1189, rfl⟩
abbrev main_call31_cst_2 : Ref sig .tc := ⟨.hbm, 1190, rfl⟩
abbrev main_call31_v6 : Ref sig .tc := ⟨.hbm, 1191, rfl⟩
abbrev main_call31_v7 : Ref sig .tc := ⟨.hbm, 1192, rfl⟩
abbrev main_v803 : Ref sig .tc := ⟨.hbm, 1193, rfl⟩
abbrev main_v804 : Ref sig .tc := ⟨.hbm, 1194, rfl⟩
abbrev main_v805 : Ref sig .tc := ⟨.hbm, 1195, rfl⟩
abbrev main_v806 : Ref sig .tc := ⟨.hbm, 1196, rfl⟩
abbrev main_v807 : Ref sig .tc := ⟨.hbm, 1197, rfl⟩
abbrev main_v808 : Ref sig .tc := ⟨.hbm, 1198, rfl⟩
abbrev main_v809 : Ref sig .tc := ⟨.hbm, 1199, rfl⟩
abbrev main_v810 : Ref sig .tc := ⟨.hbm, 1200, rfl⟩
abbrev main_v811 : Ref sig .tc := ⟨.hbm, 1201, rfl⟩
abbrev main_v812 : Ref sig .tc := ⟨.hbm, 1202, rfl⟩
abbrev main_v813 : Ref sig .tc := ⟨.hbm, 1203, rfl⟩
abbrev main_v814 : Ref sig .tc := ⟨.hbm, 1204, rfl⟩
abbrev main_cst_168 : Ref sig .tc := ⟨.hbm, 1205, rfl⟩
abbrev main_call32_cst : Ref sig .tc := ⟨.hbm, 1206, rfl⟩
abbrev main_call32_v0 : Ref sig .tc := ⟨.hbm, 1207, rfl⟩
abbrev main_call32_v1 : Ref sig .tc := ⟨.hbm, 1208, rfl⟩
abbrev main_call32_v2 : Ref sig .tc := ⟨.hbm, 1209, rfl⟩
abbrev main_call32_v3 : Ref sig .tc := ⟨.hbm, 1210, rfl⟩
abbrev main_call32_v4 : Ref sig .tc := ⟨.hbm, 1211, rfl⟩
abbrev main_v815 : Ref sig .tc := ⟨.hbm, 1212, rfl⟩
abbrev main_cst_169 : Ref sig .tc := ⟨.hbm, 1213, rfl⟩
abbrev main_v816 : Ref sig .tc := ⟨.hbm, 1214, rfl⟩
abbrev main_v817 : Ref sig .tc := ⟨.hbm, 1215, rfl⟩
abbrev main_v818 : Ref sig .tc := ⟨.hbm, 1216, rfl⟩
abbrev main_cst_170 : Ref sig .tc := ⟨.hbm, 1217, rfl⟩
abbrev main_v819 : Ref sig .tc := ⟨.hbm, 1218, rfl⟩
abbrev main_cst_171 : Ref sig .tc := ⟨.hbm, 1219, rfl⟩
abbrev main_v820 : Ref sig .tc := ⟨.hbm, 1220, rfl⟩
abbrev main_v821 : Ref sig .tc := ⟨.hbm, 1221, rfl⟩
abbrev main_v822 : Ref sig .tc := ⟨.hbm, 1222, rfl⟩
abbrev main_v823 : Ref sig .tc := ⟨.hbm, 1223, rfl⟩
abbrev main_cst_172 : Ref sig .tc := ⟨.hbm, 1224, rfl⟩
abbrev main_v824 : Ref sig .tc := ⟨.hbm, 1225, rfl⟩
abbrev main_v825 : Ref sig .tc := ⟨.hbm, 1226, rfl⟩
abbrev main_v826 : Ref sig .tc := ⟨.hbm, 1227, rfl⟩
abbrev main_cst_173 : Ref sig .tc := ⟨.hbm, 1228, rfl⟩
abbrev main_v827 : Ref sig .tc := ⟨.hbm, 1229, rfl⟩
abbrev main_v828 : Ref sig .tc := ⟨.hbm, 1230, rfl⟩
abbrev main_v829 : Ref sig .tc := ⟨.hbm, 1231, rfl⟩
abbrev main_v830 : Ref sig .tc := ⟨.hbm, 1232, rfl⟩
abbrev main_cst_174 : Ref sig .tc := ⟨.hbm, 1233, rfl⟩
abbrev main_call33_v0 : Ref sig .tc := ⟨.hbm, 1234, rfl⟩
abbrev main_call33_v1 : Ref sig .tc := ⟨.hbm, 1235, rfl⟩
abbrev main_v831 : Ref sig .tc := ⟨.hbm, 1236, rfl⟩
abbrev main_cst_175 : Ref sig .tc := ⟨.hbm, 1237, rfl⟩
abbrev main_v832 : Ref sig .tc := ⟨.hbm, 1238, rfl⟩
abbrev main_cst_176 : Ref sig .tc := ⟨.hbm, 1239, rfl⟩
abbrev main_v833 : Ref sig .tc := ⟨.hbm, 1240, rfl⟩
abbrev main_v834 : Ref sig .tc := ⟨.hbm, 1241, rfl⟩
abbrev main_v835 : Ref sig .tc := ⟨.hbm, 1242, rfl⟩
abbrev main_v836 : Ref sig .tc := ⟨.hbm, 1243, rfl⟩
abbrev main_v837 : Ref sig .tc := ⟨.hbm, 1244, rfl⟩
abbrev main_v838 : Ref sig .tc := ⟨.hbm, 1245, rfl⟩
abbrev main_cst_177 : Ref sig .tc := ⟨.hbm, 1246, rfl⟩
abbrev main_v839 : Ref sig .tc := ⟨.hbm, 1247, rfl⟩
abbrev main_v840 : Ref sig .tc := ⟨.hbm, 1248, rfl⟩
abbrev main_v841 : Ref sig .tc := ⟨.hbm, 1249, rfl⟩
abbrev main_v842 : Ref sig .tc := ⟨.hbm, 1250, rfl⟩
abbrev main_v843 : Ref sig .tc := ⟨.hbm, 1251, rfl⟩
abbrev main_v844 : Ref sig .tc := ⟨.hbm, 1252, rfl⟩
abbrev main_call34_cst : Ref sig .tc := ⟨.hbm, 1253, rfl⟩
abbrev main_call34_v0 : Ref sig .tc := ⟨.hbm, 1254, rfl⟩
abbrev main_call34_v1 : Ref sig .tc := ⟨.hbm, 1255, rfl⟩
abbrev main_call34_cst_0 : Ref sig .tc := ⟨.hbm, 1256, rfl⟩
abbrev main_call34_v2 : Ref sig .tc := ⟨.hbm, 1257, rfl⟩
abbrev main_call34_v3 : Ref sig .tc := ⟨.hbm, 1258, rfl⟩
abbrev main_call34_cst_1 : Ref sig .tc := ⟨.hbm, 1259, rfl⟩
abbrev main_call34_call0_v0 : Ref sig .tc := ⟨.hbm, 1260, rfl⟩
abbrev main_call34_call0_v1 : Ref sig .tc := ⟨.hbm, 1261, rfl⟩
abbrev main_call34_v4 : Ref sig .tc := ⟨.hbm, 1262, rfl⟩
abbrev main_call34_v5 : Ref sig .tc := ⟨.hbm, 1263, rfl⟩
abbrev main_call34_cst_2 : Ref sig .tc := ⟨.hbm, 1264, rfl⟩
abbrev main_call34_v6 : Ref sig .tc := ⟨.hbm, 1265, rfl⟩
abbrev main_call34_v7 : Ref sig .tc := ⟨.hbm, 1266, rfl⟩
abbrev main_v845 : Ref sig .tc := ⟨.hbm, 1267, rfl⟩
abbrev main_v846 : Ref sig .tc := ⟨.hbm, 1268, rfl⟩
abbrev main_v847 : Ref sig .tc := ⟨.hbm, 1269, rfl⟩
abbrev main_v848 : Ref sig .tc := ⟨.hbm, 1270, rfl⟩
abbrev main_v849 : Ref sig .tc := ⟨.hbm, 1271, rfl⟩
abbrev main_v850 : Ref sig .tc := ⟨.hbm, 1272, rfl⟩
abbrev main_cst_178 : Ref sig .tc := ⟨.hbm, 1273, rfl⟩
abbrev main_v851 : Ref sig .tc := ⟨.hbm, 1274, rfl⟩
abbrev main_v852 : Ref sig .tc := ⟨.hbm, 1275, rfl⟩
abbrev main_v853 : Ref sig .tc := ⟨.hbm, 1276, rfl⟩
abbrev main_v854 : Ref sig .tc := ⟨.hbm, 1277, rfl⟩
abbrev main_v855 : Ref sig .tc := ⟨.hbm, 1278, rfl⟩
abbrev main_v856 : Ref sig .tc := ⟨.hbm, 1279, rfl⟩
abbrev main_v857 : Ref sig .tc := ⟨.hbm, 1280, rfl⟩
abbrev main_v858 : Ref sig .tc := ⟨.hbm, 1281, rfl⟩
abbrev main_v859 : Ref sig .tc := ⟨.hbm, 1282, rfl⟩
abbrev main_v860 : Ref sig .tc := ⟨.hbm, 1283, rfl⟩
abbrev main_v861 : Ref sig .tc := ⟨.hbm, 1284, rfl⟩
abbrev main_v862 : Ref sig .tc := ⟨.hbm, 1285, rfl⟩
abbrev main_c_179 : Ref sig .tc := ⟨.hbm, 1286, rfl⟩
abbrev main_v863 : Ref sig .tc := ⟨.hbm, 1287, rfl⟩
abbrev main_v864 : Ref sig .tc := ⟨.hbm, 1288, rfl⟩
abbrev main_v865 : Ref sig .tc := ⟨.hbm, 1289, rfl⟩
abbrev main_v866 : Ref sig .tc := ⟨.hbm, 1290, rfl⟩
abbrev main_cst_180 : Ref sig .tc := ⟨.hbm, 1291, rfl⟩
abbrev main_v867 : Ref sig .tc := ⟨.hbm, 1292, rfl⟩
abbrev main_v868 : Ref sig .tc := ⟨.hbm, 1293, rfl⟩
abbrev main_cst_181 : Ref sig .tc := ⟨.hbm, 1294, rfl⟩
abbrev main_v869 : Ref sig .tc := ⟨.hbm, 1295, rfl⟩
abbrev main_v870 : Ref sig .tc := ⟨.hbm, 1296, rfl⟩
abbrev main_cst_182 : Ref sig .tc := ⟨.hbm, 1297, rfl⟩
abbrev main_call35_v0 : Ref sig .tc := ⟨.hbm, 1298, rfl⟩
abbrev main_call35_v1 : Ref sig .tc := ⟨.hbm, 1299, rfl⟩
abbrev main_v871 : Ref sig .tc := ⟨.hbm, 1300, rfl⟩
abbrev main_v872 : Ref sig .tc := ⟨.hbm, 1301, rfl⟩
abbrev main_v873 : Ref sig .tc := ⟨.hbm, 1302, rfl⟩
abbrev main_v874 : Ref sig .tc := ⟨.hbm, 1303, rfl⟩
abbrev main_cst_183 : Ref sig .tc := ⟨.hbm, 1304, rfl⟩
abbrev main_v875 : Ref sig .tc := ⟨.hbm, 1305, rfl⟩
abbrev main_v876 : Ref sig .tc := ⟨.hbm, 1306, rfl⟩
abbrev main_v877 : Ref sig .tc := ⟨.hbm, 1307, rfl⟩
abbrev main_v878 : Ref sig .tc := ⟨.hbm, 1308, rfl⟩
abbrev main_v879 : Ref sig .tc := ⟨.hbm, 1309, rfl⟩
abbrev main_cst_184 : Ref sig .tc := ⟨.hbm, 1310, rfl⟩
abbrev main_v880 : Ref sig .tc := ⟨.hbm, 1311, rfl⟩
abbrev main_v881 : Ref sig .tc := ⟨.hbm, 1312, rfl⟩
abbrev main_v882 : Ref sig .tc := ⟨.hbm, 1313, rfl⟩
abbrev main_v883 : Ref sig .tc := ⟨.hbm, 1314, rfl⟩
abbrev main_cst_185 : Ref sig .tc := ⟨.hbm, 1315, rfl⟩
abbrev main_v884 : Ref sig .tc := ⟨.hbm, 1316, rfl⟩
abbrev main_v885 : Ref sig .tc := ⟨.hbm, 1317, rfl⟩
abbrev main_v886 : Ref sig .tc := ⟨.hbm, 1318, rfl⟩
abbrev main_v887 : Ref sig .tc := ⟨.hbm, 1319, rfl⟩
abbrev main_v888 : Ref sig .tc := ⟨.hbm, 1320, rfl⟩
abbrev main_v889 : Ref sig .tc := ⟨.hbm, 1321, rfl⟩
abbrev main_v890 : Ref sig .tc := ⟨.hbm, 1322, rfl⟩
abbrev main_v891 : Ref sig .tc := ⟨.hbm, 1323, rfl⟩
abbrev main_v892 : Ref sig .tc := ⟨.hbm, 1324, rfl⟩
abbrev main_v893 : Ref sig .tc := ⟨.hbm, 1325, rfl⟩
abbrev main_v894 : Ref sig .tc := ⟨.hbm, 1326, rfl⟩
abbrev main_v895 : Ref sig .tc := ⟨.hbm, 1327, rfl⟩
abbrev main_v896 : Ref sig .tc := ⟨.hbm, 1328, rfl⟩
abbrev main_cst_186 : Ref sig .tc := ⟨.hbm, 1329, rfl⟩
abbrev main_call36_cst : Ref sig .tc := ⟨.hbm, 1330, rfl⟩
abbrev main_call36_v0 : Ref sig .tc := ⟨.hbm, 1331, rfl⟩
abbrev main_call36_v1 : Ref sig .tc := ⟨.hbm, 1332, rfl⟩
abbrev main_call36_v2 : Ref sig .tc := ⟨.hbm, 1333, rfl⟩
abbrev main_call36_v3 : Ref sig .tc := ⟨.hbm, 1334, rfl⟩
abbrev main_call36_v4 : Ref sig .tc := ⟨.hbm, 1335, rfl⟩
abbrev main_v897 : Ref sig .tc := ⟨.hbm, 1336, rfl⟩
abbrev main_cst_187 : Ref sig .tc := ⟨.hbm, 1337, rfl⟩
abbrev main_v898 : Ref sig .tc := ⟨.hbm, 1338, rfl⟩
abbrev main_v899 : Ref sig .tc := ⟨.hbm, 1339, rfl⟩
abbrev main_v900 : Ref sig .tc := ⟨.hbm, 1340, rfl⟩
abbrev main_cst_188 : Ref sig .tc := ⟨.hbm, 1341, rfl⟩
abbrev main_v901 : Ref sig .tc := ⟨.hbm, 1342, rfl⟩
abbrev main_cst_189 : Ref sig .tc := ⟨.hbm, 1343, rfl⟩
abbrev main_v902 : Ref sig .tc := ⟨.hbm, 1344, rfl⟩
abbrev main_v903 : Ref sig .tc := ⟨.hbm, 1345, rfl⟩
abbrev main_v904 : Ref sig .tc := ⟨.hbm, 1346, rfl⟩
abbrev main_v905 : Ref sig .tc := ⟨.hbm, 1347, rfl⟩
abbrev main_cst_190 : Ref sig .tc := ⟨.hbm, 1348, rfl⟩
abbrev main_v906 : Ref sig .tc := ⟨.hbm, 1349, rfl⟩
abbrev main_v907 : Ref sig .tc := ⟨.hbm, 1350, rfl⟩
abbrev main_v908 : Ref sig .tc := ⟨.hbm, 1351, rfl⟩
abbrev main_cst_191 : Ref sig .tc := ⟨.hbm, 1352, rfl⟩
abbrev main_v909 : Ref sig .tc := ⟨.hbm, 1353, rfl⟩
abbrev main_v910 : Ref sig .tc := ⟨.hbm, 1354, rfl⟩
abbrev main_v911 : Ref sig .tc := ⟨.hbm, 1355, rfl⟩
abbrev main_v912 : Ref sig .tc := ⟨.hbm, 1356, rfl⟩
abbrev main_cst_192 : Ref sig .tc := ⟨.hbm, 1357, rfl⟩
abbrev main_call37_v0 : Ref sig .tc := ⟨.hbm, 1358, rfl⟩
abbrev main_call37_v1 : Ref sig .tc := ⟨.hbm, 1359, rfl⟩
abbrev main_v913 : Ref sig .tc := ⟨.hbm, 1360, rfl⟩
abbrev main_cst_193 : Ref sig .tc := ⟨.hbm, 1361, rfl⟩
abbrev main_v914 : Ref sig .tc := ⟨.hbm, 1362, rfl⟩
abbrev main_cst_194 : Ref sig .tc := ⟨.hbm, 1363, rfl⟩
abbrev main_v915 : Ref sig .tc := ⟨.hbm, 1364, rfl⟩
abbrev main_v916 : Ref sig .tc := ⟨.hbm, 1365, rfl⟩
abbrev main_v917 : Ref sig .tc := ⟨.hbm, 1366, rfl⟩
abbrev main_v918 : Ref sig .tc := ⟨.hbm, 1367, rfl⟩
abbrev main_v919 : Ref sig .tc := ⟨.hbm, 1368, rfl⟩
abbrev main_v920 : Ref sig .tc := ⟨.hbm, 1369, rfl⟩
abbrev main_cst_195 : Ref sig .tc := ⟨.hbm, 1370, rfl⟩
abbrev main_v921 : Ref sig .tc := ⟨.hbm, 1371, rfl⟩
abbrev main_v922 : Ref sig .tc := ⟨.hbm, 1372, rfl⟩
abbrev main_v923 : Ref sig .tc := ⟨.hbm, 1373, rfl⟩
abbrev main_v924 : Ref sig .tc := ⟨.hbm, 1374, rfl⟩
abbrev main_v925 : Ref sig .tc := ⟨.hbm, 1375, rfl⟩
abbrev main_v926 : Ref sig .tc := ⟨.hbm, 1376, rfl⟩
abbrev main_call38_cst : Ref sig .tc := ⟨.hbm, 1377, rfl⟩
abbrev main_call38_v0 : Ref sig .tc := ⟨.hbm, 1378, rfl⟩
abbrev main_call38_v1 : Ref sig .tc := ⟨.hbm, 1379, rfl⟩
abbrev main_call38_cst_0 : Ref sig .tc := ⟨.hbm, 1380, rfl⟩
abbrev main_call38_v2 : Ref sig .tc := ⟨.hbm, 1381, rfl⟩
abbrev main_call38_v3 : Ref sig .tc := ⟨.hbm, 1382, rfl⟩
abbrev main_call38_cst_1 : Ref sig .tc := ⟨.hbm, 1383, rfl⟩
abbrev main_call38_call0_v0 : Ref sig .tc := ⟨.hbm, 1384, rfl⟩
abbrev main_call38_call0_v1 : Ref sig .tc := ⟨.hbm, 1385, rfl⟩
abbrev main_call38_v4 : Ref sig .tc := ⟨.hbm, 1386, rfl⟩
abbrev main_call38_v5 : Ref sig .tc := ⟨.hbm, 1387, rfl⟩
abbrev main_call38_cst_2 : Ref sig .tc := ⟨.hbm, 1388, rfl⟩
abbrev main_call38_v6 : Ref sig .tc := ⟨.hbm, 1389, rfl⟩
abbrev main_call38_v7 : Ref sig .tc := ⟨.hbm, 1390, rfl⟩
abbrev main_v927 : Ref sig .tc := ⟨.hbm, 1391, rfl⟩
abbrev main_v928 : Ref sig .tc := ⟨.hbm, 1392, rfl⟩
abbrev main_v929 : Ref sig .tc := ⟨.hbm, 1393, rfl⟩
abbrev main_v930 : Ref sig .tc := ⟨.hbm, 1394, rfl⟩
abbrev main_v931 : Ref sig .tc := ⟨.hbm, 1395, rfl⟩
abbrev main_v932 : Ref sig .tc := ⟨.hbm, 1396, rfl⟩
abbrev main_v933 : Ref sig .tc := ⟨.hbm, 1397, rfl⟩
abbrev main_v934 : Ref sig .tc := ⟨.hbm, 1398, rfl⟩
abbrev main_v935 : Ref sig .tc := ⟨.hbm, 1399, rfl⟩
abbrev main_v936 : Ref sig .tc := ⟨.hbm, 1400, rfl⟩
abbrev main_v937 : Ref sig .tc := ⟨.hbm, 1401, rfl⟩
abbrev main_v938 : Ref sig .tc := ⟨.hbm, 1402, rfl⟩
abbrev main_cst_196 : Ref sig .tc := ⟨.hbm, 1403, rfl⟩
abbrev main_call39_cst : Ref sig .tc := ⟨.hbm, 1404, rfl⟩
abbrev main_call39_v0 : Ref sig .tc := ⟨.hbm, 1405, rfl⟩
abbrev main_call39_v1 : Ref sig .tc := ⟨.hbm, 1406, rfl⟩
abbrev main_call39_v2 : Ref sig .tc := ⟨.hbm, 1407, rfl⟩
abbrev main_call39_v3 : Ref sig .tc := ⟨.hbm, 1408, rfl⟩
abbrev main_call39_v4 : Ref sig .tc := ⟨.hbm, 1409, rfl⟩
abbrev main_v939 : Ref sig .tc := ⟨.hbm, 1410, rfl⟩
abbrev main_cst_197 : Ref sig .tc := ⟨.hbm, 1411, rfl⟩
abbrev main_v940 : Ref sig .tc := ⟨.hbm, 1412, rfl⟩
abbrev main_v941 : Ref sig .tc := ⟨.hbm, 1413, rfl⟩
abbrev main_v942 : Ref sig .tc := ⟨.hbm, 1414, rfl⟩
abbrev main_cst_198 : Ref sig .tc := ⟨.hbm, 1415, rfl⟩
abbrev main_v943 : Ref sig .tc := ⟨.hbm, 1416, rfl⟩
abbrev main_cst_199 : Ref sig .tc := ⟨.hbm, 1417, rfl⟩
abbrev main_v944 : Ref sig .tc := ⟨.hbm, 1418, rfl⟩
abbrev main_v945 : Ref sig .tc := ⟨.hbm, 1419, rfl⟩
abbrev main_v946 : Ref sig .tc := ⟨.hbm, 1420, rfl⟩
abbrev main_v947 : Ref sig .tc := ⟨.hbm, 1421, rfl⟩
abbrev main_cst_200 : Ref sig .tc := ⟨.hbm, 1422, rfl⟩
abbrev main_v948 : Ref sig .tc := ⟨.hbm, 1423, rfl⟩
abbrev main_v949 : Ref sig .tc := ⟨.hbm, 1424, rfl⟩
abbrev main_v950 : Ref sig .tc := ⟨.hbm, 1425, rfl⟩
abbrev main_cst_201 : Ref sig .tc := ⟨.hbm, 1426, rfl⟩
abbrev main_v951 : Ref sig .tc := ⟨.hbm, 1427, rfl⟩
abbrev main_v952 : Ref sig .tc := ⟨.hbm, 1428, rfl⟩
abbrev main_v953 : Ref sig .tc := ⟨.hbm, 1429, rfl⟩
abbrev main_v954 : Ref sig .tc := ⟨.hbm, 1430, rfl⟩
abbrev main_cst_202 : Ref sig .tc := ⟨.hbm, 1431, rfl⟩
abbrev main_call40_v0 : Ref sig .tc := ⟨.hbm, 1432, rfl⟩
abbrev main_call40_v1 : Ref sig .tc := ⟨.hbm, 1433, rfl⟩
abbrev main_v955 : Ref sig .tc := ⟨.hbm, 1434, rfl⟩
abbrev main_cst_203 : Ref sig .tc := ⟨.hbm, 1435, rfl⟩
abbrev main_v956 : Ref sig .tc := ⟨.hbm, 1436, rfl⟩
abbrev main_cst_204 : Ref sig .tc := ⟨.hbm, 1437, rfl⟩
abbrev main_v957 : Ref sig .tc := ⟨.hbm, 1438, rfl⟩
abbrev main_v958 : Ref sig .tc := ⟨.hbm, 1439, rfl⟩
abbrev main_v959 : Ref sig .tc := ⟨.hbm, 1440, rfl⟩
abbrev main_v960 : Ref sig .tc := ⟨.hbm, 1441, rfl⟩
abbrev main_v961 : Ref sig .tc := ⟨.hbm, 1442, rfl⟩
abbrev main_v962 : Ref sig .tc := ⟨.hbm, 1443, rfl⟩
abbrev main_cst_205 : Ref sig .tc := ⟨.hbm, 1444, rfl⟩
abbrev main_v963 : Ref sig .tc := ⟨.hbm, 1445, rfl⟩
abbrev main_v964 : Ref sig .tc := ⟨.hbm, 1446, rfl⟩
abbrev main_v965 : Ref sig .tc := ⟨.hbm, 1447, rfl⟩
abbrev main_v966 : Ref sig .tc := ⟨.hbm, 1448, rfl⟩
abbrev main_v967 : Ref sig .tc := ⟨.hbm, 1449, rfl⟩
abbrev main_v968 : Ref sig .tc := ⟨.hbm, 1450, rfl⟩
abbrev main_call41_cst : Ref sig .tc := ⟨.hbm, 1451, rfl⟩
abbrev main_call41_v0 : Ref sig .tc := ⟨.hbm, 1452, rfl⟩
abbrev main_call41_v1 : Ref sig .tc := ⟨.hbm, 1453, rfl⟩
abbrev main_call41_cst_0 : Ref sig .tc := ⟨.hbm, 1454, rfl⟩
abbrev main_call41_v2 : Ref sig .tc := ⟨.hbm, 1455, rfl⟩
abbrev main_call41_v3 : Ref sig .tc := ⟨.hbm, 1456, rfl⟩
abbrev main_call41_cst_1 : Ref sig .tc := ⟨.hbm, 1457, rfl⟩
abbrev main_call41_call0_v0 : Ref sig .tc := ⟨.hbm, 1458, rfl⟩
abbrev main_call41_call0_v1 : Ref sig .tc := ⟨.hbm, 1459, rfl⟩
abbrev main_call41_v4 : Ref sig .tc := ⟨.hbm, 1460, rfl⟩
abbrev main_call41_v5 : Ref sig .tc := ⟨.hbm, 1461, rfl⟩
abbrev main_call41_cst_2 : Ref sig .tc := ⟨.hbm, 1462, rfl⟩
abbrev main_call41_v6 : Ref sig .tc := ⟨.hbm, 1463, rfl⟩
abbrev main_call41_v7 : Ref sig .tc := ⟨.hbm, 1464, rfl⟩
abbrev main_v969 : Ref sig .tc := ⟨.hbm, 1465, rfl⟩
abbrev main_v970 : Ref sig .tc := ⟨.hbm, 1466, rfl⟩
abbrev main_v971 : Ref sig .tc := ⟨.hbm, 1467, rfl⟩
abbrev main_v972 : Ref sig .tc := ⟨.hbm, 1468, rfl⟩
abbrev main_v973 : Ref sig .tc := ⟨.hbm, 1469, rfl⟩
abbrev main_v974 : Ref sig .tc := ⟨.hbm, 1470, rfl⟩
abbrev main_cst_206 : Ref sig .tc := ⟨.hbm, 1471, rfl⟩
abbrev main_v975 : Ref sig .tc := ⟨.hbm, 1472, rfl⟩
abbrev main_v976 : Ref sig .tc := ⟨.hbm, 1473, rfl⟩
abbrev main_v977 : Ref sig .tc := ⟨.hbm, 1474, rfl⟩
abbrev main_v978 : Ref sig .tc := ⟨.hbm, 1475, rfl⟩
abbrev main_v979 : Ref sig .tc := ⟨.hbm, 1476, rfl⟩
abbrev main_v980 : Ref sig .tc := ⟨.hbm, 1477, rfl⟩
abbrev main_v981 : Ref sig .tc := ⟨.hbm, 1478, rfl⟩
abbrev main_v982 : Ref sig .tc := ⟨.hbm, 1479, rfl⟩
abbrev main_v983 : Ref sig .tc := ⟨.hbm, 1480, rfl⟩
abbrev main_v984 : Ref sig .tc := ⟨.hbm, 1481, rfl⟩
abbrev main_v985 : Ref sig .tc := ⟨.hbm, 1482, rfl⟩
abbrev main_v986 : Ref sig .tc := ⟨.hbm, 1483, rfl⟩
abbrev main_c_207 : Ref sig .tc := ⟨.hbm, 1484, rfl⟩
abbrev main_v987 : Ref sig .tc := ⟨.hbm, 1485, rfl⟩
abbrev main_v988 : Ref sig .tc := ⟨.hbm, 1486, rfl⟩
abbrev main_v989 : Ref sig .tc := ⟨.hbm, 1487, rfl⟩
abbrev main_v990 : Ref sig .tc := ⟨.hbm, 1488, rfl⟩
abbrev main_cst_208 : Ref sig .tc := ⟨.hbm, 1489, rfl⟩
abbrev main_v991 : Ref sig .tc := ⟨.hbm, 1490, rfl⟩
abbrev main_v992 : Ref sig .tc := ⟨.hbm, 1491, rfl⟩
abbrev main_cst_209 : Ref sig .tc := ⟨.hbm, 1492, rfl⟩
abbrev main_v993 : Ref sig .tc := ⟨.hbm, 1493, rfl⟩
abbrev main_v994 : Ref sig .tc := ⟨.hbm, 1494, rfl⟩
abbrev main_cst_210 : Ref sig .tc := ⟨.hbm, 1495, rfl⟩
abbrev main_call42_v0 : Ref sig .tc := ⟨.hbm, 1496, rfl⟩
abbrev main_call42_v1 : Ref sig .tc := ⟨.hbm, 1497, rfl⟩
abbrev main_v995 : Ref sig .tc := ⟨.hbm, 1498, rfl⟩
abbrev main_v996 : Ref sig .tc := ⟨.hbm, 1499, rfl⟩
abbrev main_v997 : Ref sig .tc := ⟨.hbm, 1500, rfl⟩
abbrev main_v998 : Ref sig .tc := ⟨.hbm, 1501, rfl⟩
abbrev main_cst_211 : Ref sig .tc := ⟨.hbm, 1502, rfl⟩
abbrev main_v999 : Ref sig .tc := ⟨.hbm, 1503, rfl⟩
abbrev main_v1000 : Ref sig .tc := ⟨.hbm, 1504, rfl⟩
abbrev main_v1001 : Ref sig .tc := ⟨.hbm, 1505, rfl⟩
abbrev main_v1002 : Ref sig .tc := ⟨.hbm, 1506, rfl⟩
abbrev main_v1003 : Ref sig .tc := ⟨.hbm, 1507, rfl⟩
abbrev main_cst_212 : Ref sig .tc := ⟨.hbm, 1508, rfl⟩
abbrev main_v1004 : Ref sig .tc := ⟨.hbm, 1509, rfl⟩
abbrev main_v1005 : Ref sig .tc := ⟨.hbm, 1510, rfl⟩
abbrev main_v1006 : Ref sig .tc := ⟨.hbm, 1511, rfl⟩
abbrev main_v1007 : Ref sig .tc := ⟨.hbm, 1512, rfl⟩
abbrev main_cst_213 : Ref sig .tc := ⟨.hbm, 1513, rfl⟩
abbrev main_v1008 : Ref sig .tc := ⟨.hbm, 1514, rfl⟩
abbrev main_v1009 : Ref sig .tc := ⟨.hbm, 1515, rfl⟩
abbrev main_v1010 : Ref sig .tc := ⟨.hbm, 1516, rfl⟩
abbrev main_v1011 : Ref sig .tc := ⟨.hbm, 1517, rfl⟩
abbrev main_v1012 : Ref sig .tc := ⟨.hbm, 1518, rfl⟩
abbrev main_v1013 : Ref sig .tc := ⟨.hbm, 1519, rfl⟩
abbrev main_v1014 : Ref sig .tc := ⟨.hbm, 1520, rfl⟩
abbrev main_v1015 : Ref sig .tc := ⟨.hbm, 1521, rfl⟩
abbrev main_v1016 : Ref sig .tc := ⟨.hbm, 1522, rfl⟩
abbrev main_v1017 : Ref sig .tc := ⟨.hbm, 1523, rfl⟩
abbrev main_v1018 : Ref sig .tc := ⟨.hbm, 1524, rfl⟩
abbrev main_v1019 : Ref sig .tc := ⟨.hbm, 1525, rfl⟩
abbrev main_v1020 : Ref sig .tc := ⟨.hbm, 1526, rfl⟩
abbrev main_cst_214 : Ref sig .tc := ⟨.hbm, 1527, rfl⟩
abbrev main_call43_cst : Ref sig .tc := ⟨.hbm, 1528, rfl⟩
abbrev main_call43_v0 : Ref sig .tc := ⟨.hbm, 1529, rfl⟩
abbrev main_call43_v1 : Ref sig .tc := ⟨.hbm, 1530, rfl⟩
abbrev main_call43_v2 : Ref sig .tc := ⟨.hbm, 1531, rfl⟩
abbrev main_call43_v3 : Ref sig .tc := ⟨.hbm, 1532, rfl⟩
abbrev main_call43_v4 : Ref sig .tc := ⟨.hbm, 1533, rfl⟩
abbrev main_v1021 : Ref sig .tc := ⟨.hbm, 1534, rfl⟩
abbrev main_cst_215 : Ref sig .tc := ⟨.hbm, 1535, rfl⟩
abbrev main_v1022 : Ref sig .tc := ⟨.hbm, 1536, rfl⟩
abbrev main_v1023 : Ref sig .tc := ⟨.hbm, 1537, rfl⟩
abbrev main_v1024 : Ref sig .tc := ⟨.hbm, 1538, rfl⟩
abbrev main_cst_216 : Ref sig .tc := ⟨.hbm, 1539, rfl⟩
abbrev main_v1025 : Ref sig .tc := ⟨.hbm, 1540, rfl⟩
abbrev main_cst_217 : Ref sig .tc := ⟨.hbm, 1541, rfl⟩
abbrev main_v1026 : Ref sig .tc := ⟨.hbm, 1542, rfl⟩
abbrev main_v1027 : Ref sig .tc := ⟨.hbm, 1543, rfl⟩
abbrev main_v1028 : Ref sig .tc := ⟨.hbm, 1544, rfl⟩
abbrev main_v1029 : Ref sig .tc := ⟨.hbm, 1545, rfl⟩
abbrev main_cst_218 : Ref sig .tc := ⟨.hbm, 1546, rfl⟩
abbrev main_v1030 : Ref sig .tc := ⟨.hbm, 1547, rfl⟩
abbrev main_v1031 : Ref sig .tc := ⟨.hbm, 1548, rfl⟩
abbrev main_v1032 : Ref sig .tc := ⟨.hbm, 1549, rfl⟩
abbrev main_cst_219 : Ref sig .tc := ⟨.hbm, 1550, rfl⟩
abbrev main_v1033 : Ref sig .tc := ⟨.hbm, 1551, rfl⟩
abbrev main_v1034 : Ref sig .tc := ⟨.hbm, 1552, rfl⟩
abbrev main_v1035 : Ref sig .tc := ⟨.hbm, 1553, rfl⟩
abbrev main_v1036 : Ref sig .tc := ⟨.hbm, 1554, rfl⟩
abbrev main_cst_220 : Ref sig .tc := ⟨.hbm, 1555, rfl⟩
abbrev main_call44_v0 : Ref sig .tc := ⟨.hbm, 1556, rfl⟩
abbrev main_call44_v1 : Ref sig .tc := ⟨.hbm, 1557, rfl⟩
abbrev main_v1037 : Ref sig .tc := ⟨.hbm, 1558, rfl⟩
abbrev main_cst_221 : Ref sig .tc := ⟨.hbm, 1559, rfl⟩
abbrev main_v1038 : Ref sig .tc := ⟨.hbm, 1560, rfl⟩
abbrev main_cst_222 : Ref sig .tc := ⟨.hbm, 1561, rfl⟩
abbrev main_v1039 : Ref sig .tc := ⟨.hbm, 1562, rfl⟩
abbrev main_v1040 : Ref sig .tc := ⟨.hbm, 1563, rfl⟩
abbrev main_v1041 : Ref sig .tc := ⟨.hbm, 1564, rfl⟩
abbrev main_v1042 : Ref sig .tc := ⟨.hbm, 1565, rfl⟩
abbrev main_v1043 : Ref sig .tc := ⟨.hbm, 1566, rfl⟩
abbrev main_v1044 : Ref sig .tc := ⟨.hbm, 1567, rfl⟩
abbrev main_cst_223 : Ref sig .tc := ⟨.hbm, 1568, rfl⟩
abbrev main_v1045 : Ref sig .tc := ⟨.hbm, 1569, rfl⟩
abbrev main_v1046 : Ref sig .tc := ⟨.hbm, 1570, rfl⟩
abbrev main_v1047 : Ref sig .tc := ⟨.hbm, 1571, rfl⟩
abbrev main_v1048 : Ref sig .tc := ⟨.hbm, 1572, rfl⟩
abbrev main_v1049 : Ref sig .tc := ⟨.hbm, 1573, rfl⟩
abbrev main_v1050 : Ref sig .tc := ⟨.hbm, 1574, rfl⟩
abbrev main_call45_cst : Ref sig .tc := ⟨.hbm, 1575, rfl⟩
abbrev main_call45_v0 : Ref sig .tc := ⟨.hbm, 1576, rfl⟩
abbrev main_call45_v1 : Ref sig .tc := ⟨.hbm, 1577, rfl⟩
abbrev main_call45_cst_0 : Ref sig .tc := ⟨.hbm, 1578, rfl⟩
abbrev main_call45_v2 : Ref sig .tc := ⟨.hbm, 1579, rfl⟩
abbrev main_call45_v3 : Ref sig .tc := ⟨.hbm, 1580, rfl⟩
abbrev main_call45_cst_1 : Ref sig .tc := ⟨.hbm, 1581, rfl⟩
abbrev main_call45_call0_v0 : Ref sig .tc := ⟨.hbm, 1582, rfl⟩
abbrev main_call45_call0_v1 : Ref sig .tc := ⟨.hbm, 1583, rfl⟩
abbrev main_call45_v4 : Ref sig .tc := ⟨.hbm, 1584, rfl⟩
abbrev main_call45_v5 : Ref sig .tc := ⟨.hbm, 1585, rfl⟩
abbrev main_call45_cst_2 : Ref sig .tc := ⟨.hbm, 1586, rfl⟩
abbrev main_call45_v6 : Ref sig .tc := ⟨.hbm, 1587, rfl⟩
abbrev main_call45_v7 : Ref sig .tc := ⟨.hbm, 1588, rfl⟩
abbrev main_v1051 : Ref sig .tc := ⟨.hbm, 1589, rfl⟩
abbrev main_v1052 : Ref sig .tc := ⟨.hbm, 1590, rfl⟩
abbrev main_v1053 : Ref sig .tc := ⟨.hbm, 1591, rfl⟩
abbrev main_v1054 : Ref sig .tc := ⟨.hbm, 1592, rfl⟩
abbrev main_v1055 : Ref sig .tc := ⟨.hbm, 1593, rfl⟩
abbrev main_v1056 : Ref sig .tc := ⟨.hbm, 1594, rfl⟩
abbrev main_v1057 : Ref sig .tc := ⟨.hbm, 1595, rfl⟩
abbrev main_v1058 : Ref sig .tc := ⟨.hbm, 1596, rfl⟩
abbrev main_v1059 : Ref sig .tc := ⟨.hbm, 1597, rfl⟩
abbrev main_v1060 : Ref sig .tc := ⟨.hbm, 1598, rfl⟩
abbrev main_v1061 : Ref sig .tc := ⟨.hbm, 1599, rfl⟩
abbrev main_v1062 : Ref sig .tc := ⟨.hbm, 1600, rfl⟩
abbrev main_cst_224 : Ref sig .tc := ⟨.hbm, 1601, rfl⟩
abbrev main_call46_cst : Ref sig .tc := ⟨.hbm, 1602, rfl⟩
abbrev main_call46_v0 : Ref sig .tc := ⟨.hbm, 1603, rfl⟩
abbrev main_call46_v1 : Ref sig .tc := ⟨.hbm, 1604, rfl⟩
abbrev main_call46_v2 : Ref sig .tc := ⟨.hbm, 1605, rfl⟩
abbrev main_call46_v3 : Ref sig .tc := ⟨.hbm, 1606, rfl⟩
abbrev main_call46_v4 : Ref sig .tc := ⟨.hbm, 1607, rfl⟩
abbrev main_v1063 : Ref sig .tc := ⟨.hbm, 1608, rfl⟩
abbrev main_cst_225 : Ref sig .tc := ⟨.hbm, 1609, rfl⟩
abbrev main_v1064 : Ref sig .tc := ⟨.hbm, 1610, rfl⟩
abbrev main_v1065 : Ref sig .tc := ⟨.hbm, 1611, rfl⟩
abbrev main_v1066 : Ref sig .tc := ⟨.hbm, 1612, rfl⟩
abbrev main_cst_226 : Ref sig .tc := ⟨.hbm, 1613, rfl⟩
abbrev main_v1067 : Ref sig .tc := ⟨.hbm, 1614, rfl⟩
abbrev main_cst_227 : Ref sig .tc := ⟨.hbm, 1615, rfl⟩
abbrev main_v1068 : Ref sig .tc := ⟨.hbm, 1616, rfl⟩
abbrev main_v1069 : Ref sig .tc := ⟨.hbm, 1617, rfl⟩
abbrev main_v1070 : Ref sig .tc := ⟨.hbm, 1618, rfl⟩
abbrev main_v1071 : Ref sig .tc := ⟨.hbm, 1619, rfl⟩
abbrev main_cst_228 : Ref sig .tc := ⟨.hbm, 1620, rfl⟩
abbrev main_v1072 : Ref sig .tc := ⟨.hbm, 1621, rfl⟩
abbrev main_v1073 : Ref sig .tc := ⟨.hbm, 1622, rfl⟩
abbrev main_v1074 : Ref sig .tc := ⟨.hbm, 1623, rfl⟩
abbrev main_cst_229 : Ref sig .tc := ⟨.hbm, 1624, rfl⟩
abbrev main_v1075 : Ref sig .tc := ⟨.hbm, 1625, rfl⟩
abbrev main_v1076 : Ref sig .tc := ⟨.hbm, 1626, rfl⟩
abbrev main_v1077 : Ref sig .tc := ⟨.hbm, 1627, rfl⟩
abbrev main_v1078 : Ref sig .tc := ⟨.hbm, 1628, rfl⟩
abbrev main_cst_230 : Ref sig .tc := ⟨.hbm, 1629, rfl⟩
abbrev main_call47_v0 : Ref sig .tc := ⟨.hbm, 1630, rfl⟩
abbrev main_call47_v1 : Ref sig .tc := ⟨.hbm, 1631, rfl⟩
abbrev main_v1079 : Ref sig .tc := ⟨.hbm, 1632, rfl⟩
abbrev main_cst_231 : Ref sig .tc := ⟨.hbm, 1633, rfl⟩
abbrev main_v1080 : Ref sig .tc := ⟨.hbm, 1634, rfl⟩
abbrev main_cst_232 : Ref sig .tc := ⟨.hbm, 1635, rfl⟩
abbrev main_v1081 : Ref sig .tc := ⟨.hbm, 1636, rfl⟩
abbrev main_v1082 : Ref sig .tc := ⟨.hbm, 1637, rfl⟩
abbrev main_v1083 : Ref sig .tc := ⟨.hbm, 1638, rfl⟩
abbrev main_v1084 : Ref sig .tc := ⟨.hbm, 1639, rfl⟩
abbrev main_v1085 : Ref sig .tc := ⟨.hbm, 1640, rfl⟩
abbrev main_v1086 : Ref sig .tc := ⟨.hbm, 1641, rfl⟩
abbrev main_cst_233 : Ref sig .tc := ⟨.hbm, 1642, rfl⟩
abbrev main_v1087 : Ref sig .tc := ⟨.hbm, 1643, rfl⟩
abbrev main_v1088 : Ref sig .tc := ⟨.hbm, 1644, rfl⟩
abbrev main_v1089 : Ref sig .tc := ⟨.hbm, 1645, rfl⟩
abbrev main_v1090 : Ref sig .tc := ⟨.hbm, 1646, rfl⟩
abbrev main_v1091 : Ref sig .tc := ⟨.hbm, 1647, rfl⟩
abbrev main_v1092 : Ref sig .tc := ⟨.hbm, 1648, rfl⟩
abbrev main_call48_cst : Ref sig .tc := ⟨.hbm, 1649, rfl⟩
abbrev main_call48_v0 : Ref sig .tc := ⟨.hbm, 1650, rfl⟩
abbrev main_call48_v1 : Ref sig .tc := ⟨.hbm, 1651, rfl⟩
abbrev main_call48_cst_0 : Ref sig .tc := ⟨.hbm, 1652, rfl⟩
abbrev main_call48_v2 : Ref sig .tc := ⟨.hbm, 1653, rfl⟩
abbrev main_call48_v3 : Ref sig .tc := ⟨.hbm, 1654, rfl⟩
abbrev main_call48_cst_1 : Ref sig .tc := ⟨.hbm, 1655, rfl⟩
abbrev main_call48_call0_v0 : Ref sig .tc := ⟨.hbm, 1656, rfl⟩
abbrev main_call48_call0_v1 : Ref sig .tc := ⟨.hbm, 1657, rfl⟩
abbrev main_call48_v4 : Ref sig .tc := ⟨.hbm, 1658, rfl⟩
abbrev main_call48_v5 : Ref sig .tc := ⟨.hbm, 1659, rfl⟩
abbrev main_call48_cst_2 : Ref sig .tc := ⟨.hbm, 1660, rfl⟩
abbrev main_call48_v6 : Ref sig .tc := ⟨.hbm, 1661, rfl⟩
abbrev main_call48_v7 : Ref sig .tc := ⟨.hbm, 1662, rfl⟩
abbrev main_v1093 : Ref sig .tc := ⟨.hbm, 1663, rfl⟩
abbrev main_v1094 : Ref sig .tc := ⟨.hbm, 1664, rfl⟩
abbrev main_v1095 : Ref sig .tc := ⟨.hbm, 1665, rfl⟩
abbrev main_v1096 : Ref sig .tc := ⟨.hbm, 1666, rfl⟩
abbrev main_v1097 : Ref sig .tc := ⟨.hbm, 1667, rfl⟩
abbrev main_v1098 : Ref sig .tc := ⟨.hbm, 1668, rfl⟩
abbrev main_cst_234 : Ref sig .tc := ⟨.hbm, 1669, rfl⟩
abbrev main_v1099 : Ref sig .tc := ⟨.hbm, 1670, rfl⟩
abbrev main_v1100 : Ref sig .tc := ⟨.hbm, 1671, rfl⟩
abbrev main_v1101 : Ref sig .tc := ⟨.hbm, 1672, rfl⟩
abbrev main_v1102 : Ref sig .tc := ⟨.hbm, 1673, rfl⟩
abbrev main_v1103 : Ref sig .tc := ⟨.hbm, 1674, rfl⟩
abbrev main_v1104 : Ref sig .tc := ⟨.hbm, 1675, rfl⟩
abbrev main_v1105 : Ref sig .tc := ⟨.hbm, 1676, rfl⟩
abbrev main_v1106 : Ref sig .tc := ⟨.hbm, 1677, rfl⟩
abbrev main_v1107 : Ref sig .tc := ⟨.hbm, 1678, rfl⟩
abbrev main_v1108 : Ref sig .tc := ⟨.hbm, 1679, rfl⟩
abbrev main_v1109 : Ref sig .tc := ⟨.hbm, 1680, rfl⟩
abbrev main_v1110 : Ref sig .tc := ⟨.hbm, 1681, rfl⟩
abbrev main_c_235 : Ref sig .tc := ⟨.hbm, 1682, rfl⟩
abbrev main_v1111 : Ref sig .tc := ⟨.hbm, 1683, rfl⟩
abbrev main_v1112 : Ref sig .tc := ⟨.hbm, 1684, rfl⟩
abbrev main_v1113 : Ref sig .tc := ⟨.hbm, 1685, rfl⟩
abbrev main_v1114 : Ref sig .tc := ⟨.hbm, 1686, rfl⟩
abbrev main_cst_236 : Ref sig .tc := ⟨.hbm, 1687, rfl⟩
abbrev main_v1115 : Ref sig .tc := ⟨.hbm, 1688, rfl⟩
abbrev main_v1116 : Ref sig .tc := ⟨.hbm, 1689, rfl⟩
abbrev main_cst_237 : Ref sig .tc := ⟨.hbm, 1690, rfl⟩
abbrev main_v1117 : Ref sig .tc := ⟨.hbm, 1691, rfl⟩
abbrev main_v1118 : Ref sig .tc := ⟨.hbm, 1692, rfl⟩
abbrev main_cst_238 : Ref sig .tc := ⟨.hbm, 1693, rfl⟩
abbrev main_call49_v0 : Ref sig .tc := ⟨.hbm, 1694, rfl⟩
abbrev main_call49_v1 : Ref sig .tc := ⟨.hbm, 1695, rfl⟩
abbrev main_v1119 : Ref sig .tc := ⟨.hbm, 1696, rfl⟩
abbrev main_v1120 : Ref sig .tc := ⟨.hbm, 1697, rfl⟩
abbrev main_v1121 : Ref sig .tc := ⟨.hbm, 1698, rfl⟩
abbrev main_v1122 : Ref sig .tc := ⟨.hbm, 1699, rfl⟩
abbrev main_cst_239 : Ref sig .tc := ⟨.hbm, 1700, rfl⟩
abbrev main_v1123 : Ref sig .tc := ⟨.hbm, 1701, rfl⟩
abbrev main_v1124 : Ref sig .tc := ⟨.hbm, 1702, rfl⟩
abbrev main_v1125 : Ref sig .tc := ⟨.hbm, 1703, rfl⟩
abbrev main_v1126 : Ref sig .tc := ⟨.hbm, 1704, rfl⟩
abbrev main_v1127 : Ref sig .tc := ⟨.hbm, 1705, rfl⟩
abbrev main_cst_240 : Ref sig .tc := ⟨.hbm, 1706, rfl⟩
abbrev main_v1128 : Ref sig .tc := ⟨.hbm, 1707, rfl⟩
abbrev main_v1129 : Ref sig .tc := ⟨.hbm, 1708, rfl⟩
abbrev main_v1130 : Ref sig .tc := ⟨.hbm, 1709, rfl⟩
abbrev main_v1131 : Ref sig .tc := ⟨.hbm, 1710, rfl⟩
abbrev main_cst_241 : Ref sig .tc := ⟨.hbm, 1711, rfl⟩
abbrev main_v1132 : Ref sig .tc := ⟨.hbm, 1712, rfl⟩
abbrev main_v1133 : Ref sig .tc := ⟨.hbm, 1713, rfl⟩
abbrev main_v1134 : Ref sig .tc := ⟨.hbm, 1714, rfl⟩
abbrev main_v1135 : Ref sig .tc := ⟨.hbm, 1715, rfl⟩
abbrev main_v1136 : Ref sig .tc := ⟨.hbm, 1716, rfl⟩
abbrev main_v1137 : Ref sig .tc := ⟨.hbm, 1717, rfl⟩
abbrev main_v1138 : Ref sig .tc := ⟨.hbm, 1718, rfl⟩
abbrev main_v1139 : Ref sig .tc := ⟨.hbm, 1719, rfl⟩
abbrev main_v1140 : Ref sig .tc := ⟨.hbm, 1720, rfl⟩
abbrev main_v1141 : Ref sig .tc := ⟨.hbm, 1721, rfl⟩
abbrev main_v1142 : Ref sig .tc := ⟨.hbm, 1722, rfl⟩
abbrev main_v1143 : Ref sig .tc := ⟨.hbm, 1723, rfl⟩
abbrev main_v1144 : Ref sig .tc := ⟨.hbm, 1724, rfl⟩
abbrev main_cst_242 : Ref sig .tc := ⟨.hbm, 1725, rfl⟩
abbrev main_call50_cst : Ref sig .tc := ⟨.hbm, 1726, rfl⟩
abbrev main_call50_v0 : Ref sig .tc := ⟨.hbm, 1727, rfl⟩
abbrev main_call50_v1 : Ref sig .tc := ⟨.hbm, 1728, rfl⟩
abbrev main_call50_v2 : Ref sig .tc := ⟨.hbm, 1729, rfl⟩
abbrev main_call50_v3 : Ref sig .tc := ⟨.hbm, 1730, rfl⟩
abbrev main_call50_v4 : Ref sig .tc := ⟨.hbm, 1731, rfl⟩
abbrev main_v1145 : Ref sig .tc := ⟨.hbm, 1732, rfl⟩
abbrev main_cst_243 : Ref sig .tc := ⟨.hbm, 1733, rfl⟩
abbrev main_v1146 : Ref sig .tc := ⟨.hbm, 1734, rfl⟩
abbrev main_v1147 : Ref sig .tc := ⟨.hbm, 1735, rfl⟩
abbrev main_v1148 : Ref sig .tc := ⟨.hbm, 1736, rfl⟩
abbrev main_cst_244 : Ref sig .tc := ⟨.hbm, 1737, rfl⟩
abbrev main_v1149 : Ref sig .tc := ⟨.hbm, 1738, rfl⟩
abbrev main_cst_245 : Ref sig .tc := ⟨.hbm, 1739, rfl⟩
abbrev main_v1150 : Ref sig .tc := ⟨.hbm, 1740, rfl⟩
abbrev main_v1151 : Ref sig .tc := ⟨.hbm, 1741, rfl⟩
abbrev main_v1152 : Ref sig .tc := ⟨.hbm, 1742, rfl⟩
abbrev main_v1153 : Ref sig .tc := ⟨.hbm, 1743, rfl⟩
abbrev main_cst_246 : Ref sig .tc := ⟨.hbm, 1744, rfl⟩
abbrev main_v1154 : Ref sig .tc := ⟨.hbm, 1745, rfl⟩
abbrev main_v1155 : Ref sig .tc := ⟨.hbm, 1746, rfl⟩
abbrev main_v1156 : Ref sig .tc := ⟨.hbm, 1747, rfl⟩
abbrev main_cst_247 : Ref sig .tc := ⟨.hbm, 1748, rfl⟩
abbrev main_v1157 : Ref sig .tc := ⟨.hbm, 1749, rfl⟩
abbrev main_v1158 : Ref sig .tc := ⟨.hbm, 1750, rfl⟩
abbrev main_v1159 : Ref sig .tc := ⟨.hbm, 1751, rfl⟩
abbrev main_v1160 : Ref sig .tc := ⟨.hbm, 1752, rfl⟩
abbrev main_cst_248 : Ref sig .tc := ⟨.hbm, 1753, rfl⟩
abbrev main_call51_v0 : Ref sig .tc := ⟨.hbm, 1754, rfl⟩
abbrev main_call51_v1 : Ref sig .tc := ⟨.hbm, 1755, rfl⟩
abbrev main_v1161 : Ref sig .tc := ⟨.hbm, 1756, rfl⟩
abbrev main_cst_249 : Ref sig .tc := ⟨.hbm, 1757, rfl⟩
abbrev main_v1162 : Ref sig .tc := ⟨.hbm, 1758, rfl⟩
abbrev main_cst_250 : Ref sig .tc := ⟨.hbm, 1759, rfl⟩
abbrev main_v1163 : Ref sig .tc := ⟨.hbm, 1760, rfl⟩
abbrev main_v1164 : Ref sig .tc := ⟨.hbm, 1761, rfl⟩
abbrev main_v1165 : Ref sig .tc := ⟨.hbm, 1762, rfl⟩
abbrev main_v1166 : Ref sig .tc := ⟨.hbm, 1763, rfl⟩
abbrev main_v1167 : Ref sig .tc := ⟨.hbm, 1764, rfl⟩
abbrev main_v1168 : Ref sig .tc := ⟨.hbm, 1765, rfl⟩
abbrev main_cst_251 : Ref sig .tc := ⟨.hbm, 1766, rfl⟩
abbrev main_v1169 : Ref sig .tc := ⟨.hbm, 1767, rfl⟩
abbrev main_v1170 : Ref sig .tc := ⟨.hbm, 1768, rfl⟩
abbrev main_v1171 : Ref sig .tc := ⟨.hbm, 1769, rfl⟩
abbrev main_v1172 : Ref sig .tc := ⟨.hbm, 1770, rfl⟩
abbrev main_v1173 : Ref sig .tc := ⟨.hbm, 1771, rfl⟩
abbrev main_v1174 : Ref sig .tc := ⟨.hbm, 1772, rfl⟩
abbrev main_call52_cst : Ref sig .tc := ⟨.hbm, 1773, rfl⟩
abbrev main_call52_v0 : Ref sig .tc := ⟨.hbm, 1774, rfl⟩
abbrev main_call52_v1 : Ref sig .tc := ⟨.hbm, 1775, rfl⟩
abbrev main_call52_cst_0 : Ref sig .tc := ⟨.hbm, 1776, rfl⟩
abbrev main_call52_v2 : Ref sig .tc := ⟨.hbm, 1777, rfl⟩
abbrev main_call52_v3 : Ref sig .tc := ⟨.hbm, 1778, rfl⟩
abbrev main_call52_cst_1 : Ref sig .tc := ⟨.hbm, 1779, rfl⟩
abbrev main_call52_call0_v0 : Ref sig .tc := ⟨.hbm, 1780, rfl⟩
abbrev main_call52_call0_v1 : Ref sig .tc := ⟨.hbm, 1781, rfl⟩
abbrev main_call52_v4 : Ref sig .tc := ⟨.hbm, 1782, rfl⟩
abbrev main_call52_v5 : Ref sig .tc := ⟨.hbm, 1783, rfl⟩
abbrev main_call52_cst_2 : Ref sig .tc := ⟨.hbm, 1784, rfl⟩
abbrev main_call52_v6 : Ref sig .tc := ⟨.hbm, 1785, rfl⟩
abbrev main_call52_v7 : Ref sig .tc := ⟨.hbm, 1786, rfl⟩
abbrev main_v1175 : Ref sig .tc := ⟨.hbm, 1787, rfl⟩
abbrev main_v1176 : Ref sig .tc := ⟨.hbm, 1788, rfl⟩
abbrev main_v1177 : Ref sig .tc := ⟨.hbm, 1789, rfl⟩
abbrev main_v1178 : Ref sig .tc := ⟨.hbm, 1790, rfl⟩
abbrev main_v1179 : Ref sig .tc := ⟨.hbm, 1791, rfl⟩
abbrev main_v1180 : Ref sig .tc := ⟨.hbm, 1792, rfl⟩
abbrev main_v1181 : Ref sig .tc := ⟨.hbm, 1793, rfl⟩
abbrev main_v1182 : Ref sig .tc := ⟨.hbm, 1794, rfl⟩
abbrev main_v1183 : Ref sig .tc := ⟨.hbm, 1795, rfl⟩
abbrev main_v1184 : Ref sig .tc := ⟨.hbm, 1796, rfl⟩
abbrev main_v1185 : Ref sig .tc := ⟨.hbm, 1797, rfl⟩
abbrev main_v1186 : Ref sig .tc := ⟨.hbm, 1798, rfl⟩
abbrev main_cst_252 : Ref sig .tc := ⟨.hbm, 1799, rfl⟩
abbrev main_call53_cst : Ref sig .tc := ⟨.hbm, 1800, rfl⟩
abbrev main_call53_v0 : Ref sig .tc := ⟨.hbm, 1801, rfl⟩
abbrev main_call53_v1 : Ref sig .tc := ⟨.hbm, 1802, rfl⟩
abbrev main_call53_v2 : Ref sig .tc := ⟨.hbm, 1803, rfl⟩
abbrev main_call53_v3 : Ref sig .tc := ⟨.hbm, 1804, rfl⟩
abbrev main_call53_v4 : Ref sig .tc := ⟨.hbm, 1805, rfl⟩
abbrev main_v1187 : Ref sig .tc := ⟨.hbm, 1806, rfl⟩
abbrev main_cst_253 : Ref sig .tc := ⟨.hbm, 1807, rfl⟩
abbrev main_v1188 : Ref sig .tc := ⟨.hbm, 1808, rfl⟩
abbrev main_v1189 : Ref sig .tc := ⟨.hbm, 1809, rfl⟩
abbrev main_v1190 : Ref sig .tc := ⟨.hbm, 1810, rfl⟩
abbrev main_cst_254 : Ref sig .tc := ⟨.hbm, 1811, rfl⟩
abbrev main_v1191 : Ref sig .tc := ⟨.hbm, 1812, rfl⟩
abbrev main_cst_255 : Ref sig .tc := ⟨.hbm, 1813, rfl⟩
abbrev main_v1192 : Ref sig .tc := ⟨.hbm, 1814, rfl⟩
abbrev main_v1193 : Ref sig .tc := ⟨.hbm, 1815, rfl⟩
abbrev main_v1194 : Ref sig .tc := ⟨.hbm, 1816, rfl⟩
abbrev main_v1195 : Ref sig .tc := ⟨.hbm, 1817, rfl⟩
abbrev main_cst_256 : Ref sig .tc := ⟨.hbm, 1818, rfl⟩
abbrev main_v1196 : Ref sig .tc := ⟨.hbm, 1819, rfl⟩
abbrev main_v1197 : Ref sig .tc := ⟨.hbm, 1820, rfl⟩
abbrev main_v1198 : Ref sig .tc := ⟨.hbm, 1821, rfl⟩
abbrev main_cst_257 : Ref sig .tc := ⟨.hbm, 1822, rfl⟩
abbrev main_v1199 : Ref sig .tc := ⟨.hbm, 1823, rfl⟩
abbrev main_v1200 : Ref sig .tc := ⟨.hbm, 1824, rfl⟩
abbrev main_v1201 : Ref sig .tc := ⟨.hbm, 1825, rfl⟩
abbrev main_v1202 : Ref sig .tc := ⟨.hbm, 1826, rfl⟩
abbrev main_cst_258 : Ref sig .tc := ⟨.hbm, 1827, rfl⟩
abbrev main_call54_v0 : Ref sig .tc := ⟨.hbm, 1828, rfl⟩
abbrev main_call54_v1 : Ref sig .tc := ⟨.hbm, 1829, rfl⟩
abbrev main_v1203 : Ref sig .tc := ⟨.hbm, 1830, rfl⟩
abbrev main_cst_259 : Ref sig .tc := ⟨.hbm, 1831, rfl⟩
abbrev main_v1204 : Ref sig .tc := ⟨.hbm, 1832, rfl⟩
abbrev main_cst_260 : Ref sig .tc := ⟨.hbm, 1833, rfl⟩
abbrev main_v1205 : Ref sig .tc := ⟨.hbm, 1834, rfl⟩
abbrev main_v1206 : Ref sig .tc := ⟨.hbm, 1835, rfl⟩
abbrev main_v1207 : Ref sig .tc := ⟨.hbm, 1836, rfl⟩
abbrev main_v1208 : Ref sig .tc := ⟨.hbm, 1837, rfl⟩
abbrev main_v1209 : Ref sig .tc := ⟨.hbm, 1838, rfl⟩
abbrev main_v1210 : Ref sig .tc := ⟨.hbm, 1839, rfl⟩
abbrev main_cst_261 : Ref sig .tc := ⟨.hbm, 1840, rfl⟩
abbrev main_v1211 : Ref sig .tc := ⟨.hbm, 1841, rfl⟩
abbrev main_v1212 : Ref sig .tc := ⟨.hbm, 1842, rfl⟩
abbrev main_v1213 : Ref sig .tc := ⟨.hbm, 1843, rfl⟩
abbrev main_v1214 : Ref sig .tc := ⟨.hbm, 1844, rfl⟩
abbrev main_v1215 : Ref sig .tc := ⟨.hbm, 1845, rfl⟩
abbrev main_v1216 : Ref sig .tc := ⟨.hbm, 1846, rfl⟩
abbrev main_call55_cst : Ref sig .tc := ⟨.hbm, 1847, rfl⟩
abbrev main_call55_v0 : Ref sig .tc := ⟨.hbm, 1848, rfl⟩
abbrev main_call55_v1 : Ref sig .tc := ⟨.hbm, 1849, rfl⟩
abbrev main_call55_cst_0 : Ref sig .tc := ⟨.hbm, 1850, rfl⟩
abbrev main_call55_v2 : Ref sig .tc := ⟨.hbm, 1851, rfl⟩
abbrev main_call55_v3 : Ref sig .tc := ⟨.hbm, 1852, rfl⟩
abbrev main_call55_cst_1 : Ref sig .tc := ⟨.hbm, 1853, rfl⟩
abbrev main_call55_call0_v0 : Ref sig .tc := ⟨.hbm, 1854, rfl⟩
abbrev main_call55_call0_v1 : Ref sig .tc := ⟨.hbm, 1855, rfl⟩
abbrev main_call55_v4 : Ref sig .tc := ⟨.hbm, 1856, rfl⟩
abbrev main_call55_v5 : Ref sig .tc := ⟨.hbm, 1857, rfl⟩
abbrev main_call55_cst_2 : Ref sig .tc := ⟨.hbm, 1858, rfl⟩
abbrev main_call55_v6 : Ref sig .tc := ⟨.hbm, 1859, rfl⟩
abbrev main_call55_v7 : Ref sig .tc := ⟨.hbm, 1860, rfl⟩
abbrev main_v1217 : Ref sig .tc := ⟨.hbm, 1861, rfl⟩
abbrev main_v1218 : Ref sig .tc := ⟨.hbm, 1862, rfl⟩
abbrev main_v1219 : Ref sig .tc := ⟨.hbm, 1863, rfl⟩
abbrev main_v1220 : Ref sig .tc := ⟨.hbm, 1864, rfl⟩
abbrev main_v1221 : Ref sig .tc := ⟨.hbm, 1865, rfl⟩
abbrev main_v1222 : Ref sig .tc := ⟨.hbm, 1866, rfl⟩
abbrev main_v1223 : Ref sig .tc := ⟨.hbm, 1867, rfl⟩
abbrev main_v1224 : Ref sig .tc := ⟨.hbm, 1868, rfl⟩
abbrev main_v1225 : Ref sig .tc := ⟨.hbm, 1869, rfl⟩
abbrev main_v1226 : Ref sig .tc := ⟨.hbm, 1870, rfl⟩
abbrev main_v1227 : Ref sig .tc := ⟨.hbm, 1871, rfl⟩
abbrev main_cst_262 : Ref sig .tc := ⟨.hbm, 1872, rfl⟩
abbrev main_v1228 : Ref sig .tc := ⟨.hbm, 1873, rfl⟩
abbrev main_v1229 : Ref sig .tc := ⟨.hbm, 1874, rfl⟩
abbrev main_cst_263 : Ref sig .tc := ⟨.hbm, 1875, rfl⟩
abbrev main_v1230 : Ref sig .tc := ⟨.hbm, 1876, rfl⟩
abbrev main_v1231 : Ref sig .tc := ⟨.hbm, 1877, rfl⟩
abbrev main_v1232 : Ref sig .tc := ⟨.hbm, 1878, rfl⟩
abbrev main_v1233 : Ref sig .tc := ⟨.hbm, 1879, rfl⟩
abbrev main_v1234 : Ref sig .tc := ⟨.hbm, 1880, rfl⟩
abbrev main_v1235 : Ref sig .tc := ⟨.hbm, 1881, rfl⟩
abbrev main_v1236 : Ref sig .tc := ⟨.hbm, 1882, rfl⟩
abbrev main_v1237 : Ref sig .tc := ⟨.hbm, 1883, rfl⟩
abbrev main_v1238 : Ref sig .tc := ⟨.hbm, 1884, rfl⟩
abbrev main_v1239 : Ref sig .tc := ⟨.hbm, 1885, rfl⟩
abbrev main_v1240 : Ref sig .tc := ⟨.hbm, 1886, rfl⟩
abbrev main_cst_264 : Ref sig .tc := ⟨.hbm, 1887, rfl⟩
abbrev main_v1241 : Ref sig .tc := ⟨.hbm, 1888, rfl⟩
abbrev main_v1242 : Ref sig .tc := ⟨.hbm, 1889, rfl⟩
abbrev main_cst_265 : Ref sig .tc := ⟨.hbm, 1890, rfl⟩
abbrev main_v1243 : Ref sig .tc := ⟨.hbm, 1891, rfl⟩
abbrev main_v1244 : Ref sig .tc := ⟨.hbm, 1892, rfl⟩
abbrev main_v1245 : Ref sig .tc := ⟨.hbm, 1893, rfl⟩
abbrev main_v1246 : Ref sig .tc := ⟨.hbm, 1894, rfl⟩
abbrev main_v1247 : Ref sig .tc := ⟨.hbm, 1895, rfl⟩
abbrev main_v1248 : Ref sig .tc := ⟨.hbm, 1896, rfl⟩
abbrev main_v1249 : Ref sig .tc := ⟨.hbm, 1897, rfl⟩
abbrev main_v1250 : Ref sig .tc := ⟨.hbm, 1898, rfl⟩
abbrev main_v1251 : Ref sig .tc := ⟨.hbm, 1899, rfl⟩
abbrev main_v1252 : Ref sig .tc := ⟨.hbm, 1900, rfl⟩
abbrev main_v1253 : Ref sig .tc := ⟨.hbm, 1901, rfl⟩
abbrev main_cst_266 : Ref sig .tc := ⟨.hbm, 1902, rfl⟩
abbrev main_v1254 : Ref sig .tc := ⟨.hbm, 1903, rfl⟩
abbrev main_v1255 : Ref sig .tc := ⟨.hbm, 1904, rfl⟩
abbrev main_v1256 : Ref sig .tc := ⟨.hbm, 1905, rfl⟩
abbrev main_v1257 : Ref sig .tc := ⟨.hbm, 1906, rfl⟩
abbrev main_v1258 : Ref sig .tc := ⟨.hbm, 1907, rfl⟩
abbrev main_v1259 : Ref sig .tc := ⟨.hbm, 1908, rfl⟩
abbrev main_v1260 : Ref sig .tc := ⟨.hbm, 1909, rfl⟩
abbrev main_v1261 : Ref sig .tc := ⟨.hbm, 1910, rfl⟩
abbrev main_v1262 : Ref sig .tc := ⟨.hbm, 1911, rfl⟩
abbrev main_v1263 : Ref sig .tc := ⟨.hbm, 1912, rfl⟩
abbrev main_cst_267 : Ref sig .tc := ⟨.hbm, 1913, rfl⟩
abbrev main_v1264 : Ref sig .tc := ⟨.hbm, 1914, rfl⟩
abbrev main_v1265 : Ref sig .tc := ⟨.hbm, 1915, rfl⟩
abbrev main_v1266 : Ref sig .tc := ⟨.hbm, 1916, rfl⟩
abbrev main_v1267 : Ref sig .tc := ⟨.hbm, 1917, rfl⟩
abbrev main_v1268 : Ref sig .tc := ⟨.hbm, 1918, rfl⟩
abbrev main_v1269 : Ref sig .tc := ⟨.hbm, 1919, rfl⟩
abbrev main_v1270 : Ref sig .tc := ⟨.hbm, 1920, rfl⟩
abbrev main_v1271 : Ref sig .tc := ⟨.hbm, 1921, rfl⟩
abbrev main_v1272 : Ref sig .tc := ⟨.hbm, 1922, rfl⟩
abbrev main_v1273 : Ref sig .tc := ⟨.hbm, 1923, rfl⟩
abbrev main_v1274 : Ref sig .tc := ⟨.hbm, 1924, rfl⟩
abbrev main_v1275 : Ref sig .tc := ⟨.hbm, 1925, rfl⟩
abbrev main_c_268 : Ref sig .tc := ⟨.hbm, 1926, rfl⟩
abbrev main_v1276 : Ref sig .tc := ⟨.hbm, 1927, rfl⟩
abbrev main_v1277 : Ref sig .tc := ⟨.hbm, 1928, rfl⟩
abbrev main_v1278 : Ref sig .tc := ⟨.hbm, 1929, rfl⟩
abbrev main_v1279 : Ref sig .tc := ⟨.hbm, 1930, rfl⟩
abbrev main_cst_269 : Ref sig .tc := ⟨.hbm, 1931, rfl⟩
abbrev main_v1280 : Ref sig .tc := ⟨.hbm, 1932, rfl⟩
abbrev main_v1281 : Ref sig .tc := ⟨.hbm, 1933, rfl⟩
abbrev main_cst_270 : Ref sig .tc := ⟨.hbm, 1934, rfl⟩
abbrev main_v1282 : Ref sig .tc := ⟨.hbm, 1935, rfl⟩
abbrev main_v1283 : Ref sig .tc := ⟨.hbm, 1936, rfl⟩
abbrev main_cst_271 : Ref sig .tc := ⟨.hbm, 1937, rfl⟩
abbrev main_call56_v0 : Ref sig .tc := ⟨.hbm, 1938, rfl⟩
abbrev main_call56_v1 : Ref sig .tc := ⟨.hbm, 1939, rfl⟩
abbrev main_v1284 : Ref sig .tc := ⟨.hbm, 1940, rfl⟩
abbrev main_v1285 : Ref sig .tc := ⟨.hbm, 1941, rfl⟩
abbrev main_v1286 : Ref sig .tc := ⟨.hbm, 1942, rfl⟩
abbrev main_v1287 : Ref sig .tc := ⟨.hbm, 1943, rfl⟩
abbrev main_cst_272 : Ref sig .tc := ⟨.hbm, 1944, rfl⟩
abbrev main_v1288 : Ref sig .tc := ⟨.hbm, 1945, rfl⟩
abbrev main_v1289 : Ref sig .tc := ⟨.hbm, 1946, rfl⟩
abbrev main_v1290 : Ref sig .tc := ⟨.hbm, 1947, rfl⟩
abbrev main_v1291 : Ref sig .tc := ⟨.hbm, 1948, rfl⟩
abbrev main_v1292 : Ref sig .tc := ⟨.hbm, 1949, rfl⟩
abbrev main_cst_273 : Ref sig .tc := ⟨.hbm, 1950, rfl⟩
abbrev main_v1293 : Ref sig .tc := ⟨.hbm, 1951, rfl⟩
abbrev main_v1294 : Ref sig .tc := ⟨.hbm, 1952, rfl⟩
abbrev main_v1295 : Ref sig .tc := ⟨.hbm, 1953, rfl⟩
abbrev main_v1296 : Ref sig .tc := ⟨.hbm, 1954, rfl⟩
abbrev main_cst_274 : Ref sig .tc := ⟨.hbm, 1955, rfl⟩
abbrev main_v1297 : Ref sig .tc := ⟨.hbm, 1956, rfl⟩
abbrev main_v1298 : Ref sig .tc := ⟨.hbm, 1957, rfl⟩
abbrev main_v1299 : Ref sig .tc := ⟨.hbm, 1958, rfl⟩
abbrev main_v1300 : Ref sig .tc := ⟨.hbm, 1959, rfl⟩
abbrev main_v1301 : Ref sig .tc := ⟨.hbm, 1960, rfl⟩
abbrev main_v1302 : Ref sig .tc := ⟨.hbm, 1961, rfl⟩
abbrev main_v1303 : Ref sig .tc := ⟨.hbm, 1962, rfl⟩
abbrev main_v1304 : Ref sig .tc := ⟨.hbm, 1963, rfl⟩
abbrev main_v1305 : Ref sig .tc := ⟨.hbm, 1964, rfl⟩
abbrev main_v1306 : Ref sig .tc := ⟨.hbm, 1965, rfl⟩
abbrev main_v1307 : Ref sig .tc := ⟨.hbm, 1966, rfl⟩
abbrev main_v1308 : Ref sig .tc := ⟨.hbm, 1967, rfl⟩
abbrev main_v1309 : Ref sig .tc := ⟨.hbm, 1968, rfl⟩
abbrev main_cst_275 : Ref sig .tc := ⟨.hbm, 1969, rfl⟩
abbrev main_call57_cst : Ref sig .tc := ⟨.hbm, 1970, rfl⟩
abbrev main_call57_v0 : Ref sig .tc := ⟨.hbm, 1971, rfl⟩
abbrev main_call57_v1 : Ref sig .tc := ⟨.hbm, 1972, rfl⟩
abbrev main_call57_v2 : Ref sig .tc := ⟨.hbm, 1973, rfl⟩
abbrev main_call57_v3 : Ref sig .tc := ⟨.hbm, 1974, rfl⟩
abbrev main_call57_v4 : Ref sig .tc := ⟨.hbm, 1975, rfl⟩
abbrev main_v1310 : Ref sig .tc := ⟨.hbm, 1976, rfl⟩
abbrev main_cst_276 : Ref sig .tc := ⟨.hbm, 1977, rfl⟩
abbrev main_v1311 : Ref sig .tc := ⟨.hbm, 1978, rfl⟩
abbrev main_v1312 : Ref sig .tc := ⟨.hbm, 1979, rfl⟩
abbrev main_v1313 : Ref sig .tc := ⟨.hbm, 1980, rfl⟩
abbrev main_cst_277 : Ref sig .tc := ⟨.hbm, 1981, rfl⟩
abbrev main_v1314 : Ref sig .tc := ⟨.hbm, 1982, rfl⟩
abbrev main_cst_278 : Ref sig .tc := ⟨.hbm, 1983, rfl⟩
abbrev main_v1315 : Ref sig .tc := ⟨.hbm, 1984, rfl⟩
abbrev main_v1316 : Ref sig .tc := ⟨.hbm, 1985, rfl⟩
abbrev main_v1317 : Ref sig .tc := ⟨.hbm, 1986, rfl⟩
abbrev main_v1318 : Ref sig .tc := ⟨.hbm, 1987, rfl⟩
abbrev main_cst_279 : Ref sig .tc := ⟨.hbm, 1988, rfl⟩
abbrev main_v1319 : Ref sig .tc := ⟨.hbm, 1989, rfl⟩
abbrev main_v1320 : Ref sig .tc := ⟨.hbm, 1990, rfl⟩
abbrev main_v1321 : Ref sig .tc := ⟨.hbm, 1991, rfl⟩
abbrev main_cst_280 : Ref sig .tc := ⟨.hbm, 1992, rfl⟩
abbrev main_v1322 : Ref sig .tc := ⟨.hbm, 1993, rfl⟩
abbrev main_v1323 : Ref sig .tc := ⟨.hbm, 1994, rfl⟩
abbrev main_v1324 : Ref sig .tc := ⟨.hbm, 1995, rfl⟩
abbrev main_v1325 : Ref sig .tc := ⟨.hbm, 1996, rfl⟩
abbrev main_cst_281 : Ref sig .tc := ⟨.hbm, 1997, rfl⟩
abbrev main_call58_v0 : Ref sig .tc := ⟨.hbm, 1998, rfl⟩
abbrev main_call58_v1 : Ref sig .tc := ⟨.hbm, 1999, rfl⟩
abbrev main_v1326 : Ref sig .tc := ⟨.hbm, 2000, rfl⟩
abbrev main_cst_282 : Ref sig .tc := ⟨.hbm, 2001, rfl⟩
abbrev main_v1327 : Ref sig .tc := ⟨.hbm, 2002, rfl⟩
abbrev main_cst_283 : Ref sig .tc := ⟨.hbm, 2003, rfl⟩
abbrev main_v1328 : Ref sig .tc := ⟨.hbm, 2004, rfl⟩
abbrev main_v1329 : Ref sig .tc := ⟨.hbm, 2005, rfl⟩
abbrev main_v1330 : Ref sig .tc := ⟨.hbm, 2006, rfl⟩
abbrev main_v1331 : Ref sig .tc := ⟨.hbm, 2007, rfl⟩
abbrev main_v1332 : Ref sig .tc := ⟨.hbm, 2008, rfl⟩
abbrev main_v1333 : Ref sig .tc := ⟨.hbm, 2009, rfl⟩
abbrev main_cst_284 : Ref sig .tc := ⟨.hbm, 2010, rfl⟩
abbrev main_v1334 : Ref sig .tc := ⟨.hbm, 2011, rfl⟩
abbrev main_v1335 : Ref sig .tc := ⟨.hbm, 2012, rfl⟩
abbrev main_v1336 : Ref sig .tc := ⟨.hbm, 2013, rfl⟩
abbrev main_v1337 : Ref sig .tc := ⟨.hbm, 2014, rfl⟩
abbrev main_v1338 : Ref sig .tc := ⟨.hbm, 2015, rfl⟩
abbrev main_v1339 : Ref sig .tc := ⟨.hbm, 2016, rfl⟩
abbrev main_call59_cst : Ref sig .tc := ⟨.hbm, 2017, rfl⟩
abbrev main_call59_v0 : Ref sig .tc := ⟨.hbm, 2018, rfl⟩
abbrev main_call59_v1 : Ref sig .tc := ⟨.hbm, 2019, rfl⟩
abbrev main_call59_cst_0 : Ref sig .tc := ⟨.hbm, 2020, rfl⟩
abbrev main_call59_v2 : Ref sig .tc := ⟨.hbm, 2021, rfl⟩
abbrev main_call59_v3 : Ref sig .tc := ⟨.hbm, 2022, rfl⟩
abbrev main_call59_cst_1 : Ref sig .tc := ⟨.hbm, 2023, rfl⟩
abbrev main_call59_call0_v0 : Ref sig .tc := ⟨.hbm, 2024, rfl⟩
abbrev main_call59_call0_v1 : Ref sig .tc := ⟨.hbm, 2025, rfl⟩
abbrev main_call59_v4 : Ref sig .tc := ⟨.hbm, 2026, rfl⟩
abbrev main_call59_v5 : Ref sig .tc := ⟨.hbm, 2027, rfl⟩
abbrev main_call59_cst_2 : Ref sig .tc := ⟨.hbm, 2028, rfl⟩
abbrev main_call59_v6 : Ref sig .tc := ⟨.hbm, 2029, rfl⟩
abbrev main_call59_v7 : Ref sig .tc := ⟨.hbm, 2030, rfl⟩
abbrev main_v1340 : Ref sig .tc := ⟨.hbm, 2031, rfl⟩
abbrev main_v1341 : Ref sig .tc := ⟨.hbm, 2032, rfl⟩
abbrev main_v1342 : Ref sig .tc := ⟨.hbm, 2033, rfl⟩
abbrev main_v1343 : Ref sig .tc := ⟨.hbm, 2034, rfl⟩
abbrev main_v1344 : Ref sig .tc := ⟨.hbm, 2035, rfl⟩
abbrev main_v1345 : Ref sig .tc := ⟨.hbm, 2036, rfl⟩
abbrev main_v1346 : Ref sig .tc := ⟨.hbm, 2037, rfl⟩
abbrev main_v1347 : Ref sig .tc := ⟨.hbm, 2038, rfl⟩
abbrev main_v1348 : Ref sig .tc := ⟨.hbm, 2039, rfl⟩
abbrev main_v1349 : Ref sig .tc := ⟨.hbm, 2040, rfl⟩
abbrev main_v1350 : Ref sig .tc := ⟨.hbm, 2041, rfl⟩
abbrev main_v1351 : Ref sig .tc := ⟨.hbm, 2042, rfl⟩
abbrev main_cst_285 : Ref sig .tc := ⟨.hbm, 2043, rfl⟩
abbrev main_call60_cst : Ref sig .tc := ⟨.hbm, 2044, rfl⟩
abbrev main_call60_v0 : Ref sig .tc := ⟨.hbm, 2045, rfl⟩
abbrev main_call60_v1 : Ref sig .tc := ⟨.hbm, 2046, rfl⟩
abbrev main_call60_v2 : Ref sig .tc := ⟨.hbm, 2047, rfl⟩
abbrev main_call60_v3 : Ref sig .tc := ⟨.hbm, 2048, rfl⟩
abbrev main_call60_v4 : Ref sig .tc := ⟨.hbm, 2049, rfl⟩
abbrev main_v1352 : Ref sig .tc := ⟨.hbm, 2050, rfl⟩
abbrev main_cst_286 : Ref sig .tc := ⟨.hbm, 2051, rfl⟩
abbrev main_v1353 : Ref sig .tc := ⟨.hbm, 2052, rfl⟩
abbrev main_v1354 : Ref sig .tc := ⟨.hbm, 2053, rfl⟩
abbrev main_v1355 : Ref sig .tc := ⟨.hbm, 2054, rfl⟩
abbrev main_cst_287 : Ref sig .tc := ⟨.hbm, 2055, rfl⟩
abbrev main_v1356 : Ref sig .tc := ⟨.hbm, 2056, rfl⟩
abbrev main_cst_288 : Ref sig .tc := ⟨.hbm, 2057, rfl⟩
abbrev main_v1357 : Ref sig .tc := ⟨.hbm, 2058, rfl⟩
abbrev main_v1358 : Ref sig .tc := ⟨.hbm, 2059, rfl⟩
abbrev main_v1359 : Ref sig .tc := ⟨.hbm, 2060, rfl⟩
abbrev main_v1360 : Ref sig .tc := ⟨.hbm, 2061, rfl⟩
abbrev main_cst_289 : Ref sig .tc := ⟨.hbm, 2062, rfl⟩
abbrev main_v1361 : Ref sig .tc := ⟨.hbm, 2063, rfl⟩
abbrev main_v1362 : Ref sig .tc := ⟨.hbm, 2064, rfl⟩
abbrev main_v1363 : Ref sig .tc := ⟨.hbm, 2065, rfl⟩
abbrev main_cst_290 : Ref sig .tc := ⟨.hbm, 2066, rfl⟩
abbrev main_v1364 : Ref sig .tc := ⟨.hbm, 2067, rfl⟩
abbrev main_v1365 : Ref sig .tc := ⟨.hbm, 2068, rfl⟩
abbrev main_v1366 : Ref sig .tc := ⟨.hbm, 2069, rfl⟩
abbrev main_v1367 : Ref sig .tc := ⟨.hbm, 2070, rfl⟩
abbrev main_cst_291 : Ref sig .tc := ⟨.hbm, 2071, rfl⟩
abbrev main_call61_v0 : Ref sig .tc := ⟨.hbm, 2072, rfl⟩
abbrev main_call61_v1 : Ref sig .tc := ⟨.hbm, 2073, rfl⟩
abbrev main_v1368 : Ref sig .tc := ⟨.hbm, 2074, rfl⟩
abbrev main_cst_292 : Ref sig .tc := ⟨.hbm, 2075, rfl⟩
abbrev main_v1369 : Ref sig .tc := ⟨.hbm, 2076, rfl⟩
abbrev main_cst_293 : Ref sig .tc := ⟨.hbm, 2077, rfl⟩
abbrev main_v1370 : Ref sig .tc := ⟨.hbm, 2078, rfl⟩
abbrev main_v1371 : Ref sig .tc := ⟨.hbm, 2079, rfl⟩
abbrev main_v1372 : Ref sig .tc := ⟨.hbm, 2080, rfl⟩
abbrev main_v1373 : Ref sig .tc := ⟨.hbm, 2081, rfl⟩
abbrev main_v1374 : Ref sig .tc := ⟨.hbm, 2082, rfl⟩
abbrev main_v1375 : Ref sig .tc := ⟨.hbm, 2083, rfl⟩
abbrev main_cst_294 : Ref sig .tc := ⟨.hbm, 2084, rfl⟩
abbrev main_v1376 : Ref sig .tc := ⟨.hbm, 2085, rfl⟩
abbrev main_v1377 : Ref sig .tc := ⟨.hbm, 2086, rfl⟩
abbrev main_v1378 : Ref sig .tc := ⟨.hbm, 2087, rfl⟩
abbrev main_v1379 : Ref sig .tc := ⟨.hbm, 2088, rfl⟩
abbrev main_v1380 : Ref sig .tc := ⟨.hbm, 2089, rfl⟩
abbrev main_v1381 : Ref sig .tc := ⟨.hbm, 2090, rfl⟩
abbrev main_call62_cst : Ref sig .tc := ⟨.hbm, 2091, rfl⟩
abbrev main_call62_v0 : Ref sig .tc := ⟨.hbm, 2092, rfl⟩
abbrev main_call62_v1 : Ref sig .tc := ⟨.hbm, 2093, rfl⟩
abbrev main_call62_cst_0 : Ref sig .tc := ⟨.hbm, 2094, rfl⟩
abbrev main_call62_v2 : Ref sig .tc := ⟨.hbm, 2095, rfl⟩
abbrev main_call62_v3 : Ref sig .tc := ⟨.hbm, 2096, rfl⟩
abbrev main_call62_cst_1 : Ref sig .tc := ⟨.hbm, 2097, rfl⟩
abbrev main_call62_call0_v0 : Ref sig .tc := ⟨.hbm, 2098, rfl⟩
abbrev main_call62_call0_v1 : Ref sig .tc := ⟨.hbm, 2099, rfl⟩
abbrev main_call62_v4 : Ref sig .tc := ⟨.hbm, 2100, rfl⟩
abbrev main_call62_v5 : Ref sig .tc := ⟨.hbm, 2101, rfl⟩
abbrev main_call62_cst_2 : Ref sig .tc := ⟨.hbm, 2102, rfl⟩
abbrev main_call62_v6 : Ref sig .tc := ⟨.hbm, 2103, rfl⟩
abbrev main_call62_v7 : Ref sig .tc := ⟨.hbm, 2104, rfl⟩
abbrev main_v1382 : Ref sig .tc := ⟨.hbm, 2105, rfl⟩
abbrev main_v1383 : Ref sig .tc := ⟨.hbm, 2106, rfl⟩
abbrev main_v1384 : Ref sig .tc := ⟨.hbm, 2107, rfl⟩
abbrev main_v1385 : Ref sig .tc := ⟨.hbm, 2108, rfl⟩
abbrev main_v1386 : Ref sig .tc := ⟨.hbm, 2109, rfl⟩
abbrev main_v1387 : Ref sig .tc := ⟨.hbm, 2110, rfl⟩
abbrev main_cst_295 : Ref sig .tc := ⟨.hbm, 2111, rfl⟩
abbrev main_v1388 : Ref sig .tc := ⟨.hbm, 2112, rfl⟩
abbrev main_v1389 : Ref sig .tc := ⟨.hbm, 2113, rfl⟩
abbrev main_v1390 : Ref sig .tc := ⟨.hbm, 2114, rfl⟩
abbrev main_v1391 : Ref sig .tc := ⟨.hbm, 2115, rfl⟩
abbrev main_v1392 : Ref sig .tc := ⟨.hbm, 2116, rfl⟩
abbrev main_v1393 : Ref sig .tc := ⟨.hbm, 2117, rfl⟩
abbrev main_v1394 : Ref sig .tc := ⟨.hbm, 2118, rfl⟩
abbrev main_v1395 : Ref sig .tc := ⟨.hbm, 2119, rfl⟩
abbrev main_v1396 : Ref sig .tc := ⟨.hbm, 2120, rfl⟩
abbrev main_v1397 : Ref sig .tc := ⟨.hbm, 2121, rfl⟩
abbrev main_v1398 : Ref sig .tc := ⟨.hbm, 2122, rfl⟩
abbrev main_v1399 : Ref sig .tc := ⟨.hbm, 2123, rfl⟩
abbrev main_c_296 : Ref sig .tc := ⟨.hbm, 2124, rfl⟩
abbrev main_v1400 : Ref sig .tc := ⟨.hbm, 2125, rfl⟩
abbrev main_v1401 : Ref sig .tc := ⟨.hbm, 2126, rfl⟩
abbrev main_v1402 : Ref sig .tc := ⟨.hbm, 2127, rfl⟩
abbrev main_v1403 : Ref sig .tc := ⟨.hbm, 2128, rfl⟩
abbrev main_cst_297 : Ref sig .tc := ⟨.hbm, 2129, rfl⟩
abbrev main_v1404 : Ref sig .tc := ⟨.hbm, 2130, rfl⟩
abbrev main_v1405 : Ref sig .tc := ⟨.hbm, 2131, rfl⟩
abbrev main_cst_298 : Ref sig .tc := ⟨.hbm, 2132, rfl⟩
abbrev main_v1406 : Ref sig .tc := ⟨.hbm, 2133, rfl⟩
abbrev main_v1407 : Ref sig .tc := ⟨.hbm, 2134, rfl⟩
abbrev main_cst_299 : Ref sig .tc := ⟨.hbm, 2135, rfl⟩
abbrev main_call63_v0 : Ref sig .tc := ⟨.hbm, 2136, rfl⟩
abbrev main_call63_v1 : Ref sig .tc := ⟨.hbm, 2137, rfl⟩
abbrev main_v1408 : Ref sig .tc := ⟨.hbm, 2138, rfl⟩
abbrev main_v1409 : Ref sig .tc := ⟨.hbm, 2139, rfl⟩
abbrev main_v1410 : Ref sig .tc := ⟨.hbm, 2140, rfl⟩
abbrev main_v1411 : Ref sig .tc := ⟨.hbm, 2141, rfl⟩
abbrev main_cst_300 : Ref sig .tc := ⟨.hbm, 2142, rfl⟩
abbrev main_v1412 : Ref sig .tc := ⟨.hbm, 2143, rfl⟩
abbrev main_v1413 : Ref sig .tc := ⟨.hbm, 2144, rfl⟩
abbrev main_v1414 : Ref sig .tc := ⟨.hbm, 2145, rfl⟩
abbrev main_v1415 : Ref sig .tc := ⟨.hbm, 2146, rfl⟩
abbrev main_v1416 : Ref sig .tc := ⟨.hbm, 2147, rfl⟩
abbrev main_cst_301 : Ref sig .tc := ⟨.hbm, 2148, rfl⟩
abbrev main_v1417 : Ref sig .tc := ⟨.hbm, 2149, rfl⟩
abbrev main_v1418 : Ref sig .tc := ⟨.hbm, 2150, rfl⟩
abbrev main_v1419 : Ref sig .tc := ⟨.hbm, 2151, rfl⟩
abbrev main_v1420 : Ref sig .tc := ⟨.hbm, 2152, rfl⟩
abbrev main_cst_302 : Ref sig .tc := ⟨.hbm, 2153, rfl⟩
abbrev main_v1421 : Ref sig .tc := ⟨.hbm, 2154, rfl⟩
abbrev main_v1422 : Ref sig .tc := ⟨.hbm, 2155, rfl⟩
abbrev main_v1423 : Ref sig .tc := ⟨.hbm, 2156, rfl⟩
abbrev main_v1424 : Ref sig .tc := ⟨.hbm, 2157, rfl⟩
abbrev main_v1425 : Ref sig .tc := ⟨.hbm, 2158, rfl⟩
abbrev main_v1426 : Ref sig .tc := ⟨.hbm, 2159, rfl⟩
abbrev main_v1427 : Ref sig .tc := ⟨.hbm, 2160, rfl⟩
abbrev main_v1428 : Ref sig .tc := ⟨.hbm, 2161, rfl⟩
abbrev main_v1429 : Ref sig .tc := ⟨.hbm, 2162, rfl⟩
abbrev main_v1430 : Ref sig .tc := ⟨.hbm, 2163, rfl⟩
abbrev main_v1431 : Ref sig .tc := ⟨.hbm, 2164, rfl⟩
abbrev main_v1432 : Ref sig .tc := ⟨.hbm, 2165, rfl⟩
abbrev main_v1433 : Ref sig .tc := ⟨.hbm, 2166, rfl⟩
abbrev main_cst_303 : Ref sig .tc := ⟨.hbm, 2167, rfl⟩
abbrev main_call64_cst : Ref sig .tc := ⟨.hbm, 2168, rfl⟩
abbrev main_call64_v0 : Ref sig .tc := ⟨.hbm, 2169, rfl⟩
abbrev main_call64_v1 : Ref sig .tc := ⟨.hbm, 2170, rfl⟩
abbrev main_call64_v2 : Ref sig .tc := ⟨.hbm, 2171, rfl⟩
abbrev main_call64_v3 : Ref sig .tc := ⟨.hbm, 2172, rfl⟩
abbrev main_call64_v4 : Ref sig .tc := ⟨.hbm, 2173, rfl⟩
abbrev main_v1434 : Ref sig .tc := ⟨.hbm, 2174, rfl⟩
abbrev main_cst_304 : Ref sig .tc := ⟨.hbm, 2175, rfl⟩
abbrev main_v1435 : Ref sig .tc := ⟨.hbm, 2176, rfl⟩
abbrev main_v1436 : Ref sig .tc := ⟨.hbm, 2177, rfl⟩
abbrev main_v1437 : Ref sig .tc := ⟨.hbm, 2178, rfl⟩
abbrev main_cst_305 : Ref sig .tc := ⟨.hbm, 2179, rfl⟩
abbrev main_v1438 : Ref sig .tc := ⟨.hbm, 2180, rfl⟩
abbrev main_cst_306 : Ref sig .tc := ⟨.hbm, 2181, rfl⟩
abbrev main_v1439 : Ref sig .tc := ⟨.hbm, 2182, rfl⟩
abbrev main_v1440 : Ref sig .tc := ⟨.hbm, 2183, rfl⟩
abbrev main_v1441 : Ref sig .tc := ⟨.hbm, 2184, rfl⟩
abbrev main_v1442 : Ref sig .tc := ⟨.hbm, 2185, rfl⟩
abbrev main_cst_307 : Ref sig .tc := ⟨.hbm, 2186, rfl⟩
abbrev main_v1443 : Ref sig .tc := ⟨.hbm, 2187, rfl⟩
abbrev main_v1444 : Ref sig .tc := ⟨.hbm, 2188, rfl⟩
abbrev main_v1445 : Ref sig .tc := ⟨.hbm, 2189, rfl⟩
abbrev main_cst_308 : Ref sig .tc := ⟨.hbm, 2190, rfl⟩
abbrev main_v1446 : Ref sig .tc := ⟨.hbm, 2191, rfl⟩
abbrev main_v1447 : Ref sig .tc := ⟨.hbm, 2192, rfl⟩
abbrev main_v1448 : Ref sig .tc := ⟨.hbm, 2193, rfl⟩
abbrev main_v1449 : Ref sig .tc := ⟨.hbm, 2194, rfl⟩
abbrev main_cst_309 : Ref sig .tc := ⟨.hbm, 2195, rfl⟩
abbrev main_call65_v0 : Ref sig .tc := ⟨.hbm, 2196, rfl⟩
abbrev main_call65_v1 : Ref sig .tc := ⟨.hbm, 2197, rfl⟩
abbrev main_v1450 : Ref sig .tc := ⟨.hbm, 2198, rfl⟩
abbrev main_cst_310 : Ref sig .tc := ⟨.hbm, 2199, rfl⟩
abbrev main_v1451 : Ref sig .tc := ⟨.hbm, 2200, rfl⟩
abbrev main_cst_311 : Ref sig .tc := ⟨.hbm, 2201, rfl⟩
abbrev main_v1452 : Ref sig .tc := ⟨.hbm, 2202, rfl⟩
abbrev main_v1453 : Ref sig .tc := ⟨.hbm, 2203, rfl⟩
abbrev main_v1454 : Ref sig .tc := ⟨.hbm, 2204, rfl⟩
abbrev main_v1455 : Ref sig .tc := ⟨.hbm, 2205, rfl⟩
abbrev main_v1456 : Ref sig .tc := ⟨.hbm, 2206, rfl⟩
abbrev main_v1457 : Ref sig .tc := ⟨.hbm, 2207, rfl⟩
abbrev main_cst_312 : Ref sig .tc := ⟨.hbm, 2208, rfl⟩
abbrev main_v1458 : Ref sig .tc := ⟨.hbm, 2209, rfl⟩
abbrev main_v1459 : Ref sig .tc := ⟨.hbm, 2210, rfl⟩
abbrev main_v1460 : Ref sig .tc := ⟨.hbm, 2211, rfl⟩
abbrev main_v1461 : Ref sig .tc := ⟨.hbm, 2212, rfl⟩
abbrev main_v1462 : Ref sig .tc := ⟨.hbm, 2213, rfl⟩
abbrev main_v1463 : Ref sig .tc := ⟨.hbm, 2214, rfl⟩
abbrev main_call66_cst : Ref sig .tc := ⟨.hbm, 2215, rfl⟩
abbrev main_call66_v0 : Ref sig .tc := ⟨.hbm, 2216, rfl⟩
abbrev main_call66_v1 : Ref sig .tc := ⟨.hbm, 2217, rfl⟩
abbrev main_call66_cst_0 : Ref sig .tc := ⟨.hbm, 2218, rfl⟩
abbrev main_call66_v2 : Ref sig .tc := ⟨.hbm, 2219, rfl⟩
abbrev main_call66_v3 : Ref sig .tc := ⟨.hbm, 2220, rfl⟩
abbrev main_call66_cst_1 : Ref sig .tc := ⟨.hbm, 2221, rfl⟩
abbrev main_call66_call0_v0 : Ref sig .tc := ⟨.hbm, 2222, rfl⟩
abbrev main_call66_call0_v1 : Ref sig .tc := ⟨.hbm, 2223, rfl⟩
abbrev main_call66_v4 : Ref sig .tc := ⟨.hbm, 2224, rfl⟩
abbrev main_call66_v5 : Ref sig .tc := ⟨.hbm, 2225, rfl⟩
abbrev main_call66_cst_2 : Ref sig .tc := ⟨.hbm, 2226, rfl⟩
abbrev main_call66_v6 : Ref sig .tc := ⟨.hbm, 2227, rfl⟩
abbrev main_call66_v7 : Ref sig .tc := ⟨.hbm, 2228, rfl⟩
abbrev main_v1464 : Ref sig .tc := ⟨.hbm, 2229, rfl⟩
abbrev main_v1465 : Ref sig .tc := ⟨.hbm, 2230, rfl⟩
abbrev main_v1466 : Ref sig .tc := ⟨.hbm, 2231, rfl⟩
abbrev main_v1467 : Ref sig .tc := ⟨.hbm, 2232, rfl⟩
abbrev main_v1468 : Ref sig .tc := ⟨.hbm, 2233, rfl⟩
abbrev main_v1469 : Ref sig .tc := ⟨.hbm, 2234, rfl⟩
abbrev main_v1470 : Ref sig .tc := ⟨.hbm, 2235, rfl⟩
abbrev main_v1471 : Ref sig .tc := ⟨.hbm, 2236, rfl⟩
abbrev main_v1472 : Ref sig .tc := ⟨.hbm, 2237, rfl⟩
abbrev main_v1473 : Ref sig .tc := ⟨.hbm, 2238, rfl⟩
abbrev main_v1474 : Ref sig .tc := ⟨.hbm, 2239, rfl⟩
abbrev main_v1475 : Ref sig .tc := ⟨.hbm, 2240, rfl⟩
abbrev main_cst_313 : Ref sig .tc := ⟨.hbm, 2241, rfl⟩
abbrev main_call67_cst : Ref sig .tc := ⟨.hbm, 2242, rfl⟩
abbrev main_call67_v0 : Ref sig .tc := ⟨.hbm, 2243, rfl⟩
abbrev main_call67_v1 : Ref sig .tc := ⟨.hbm, 2244, rfl⟩
abbrev main_call67_v2 : Ref sig .tc := ⟨.hbm, 2245, rfl⟩
abbrev main_call67_v3 : Ref sig .tc := ⟨.hbm, 2246, rfl⟩
abbrev main_call67_v4 : Ref sig .tc := ⟨.hbm, 2247, rfl⟩
abbrev main_v1476 : Ref sig .tc := ⟨.hbm, 2248, rfl⟩
abbrev main_cst_314 : Ref sig .tc := ⟨.hbm, 2249, rfl⟩
abbrev main_v1477 : Ref sig .tc := ⟨.hbm, 2250, rfl⟩
abbrev main_v1478 : Ref sig .tc := ⟨.hbm, 2251, rfl⟩
abbrev main_v1479 : Ref sig .tc := ⟨.hbm, 2252, rfl⟩
abbrev main_cst_315 : Ref sig .tc := ⟨.hbm, 2253, rfl⟩
abbrev main_v1480 : Ref sig .tc := ⟨.hbm, 2254, rfl⟩
abbrev main_cst_316 : Ref sig .tc := ⟨.hbm, 2255, rfl⟩
abbrev main_v1481 : Ref sig .tc := ⟨.hbm, 2256, rfl⟩
abbrev main_v1482 : Ref sig .tc := ⟨.hbm, 2257, rfl⟩
abbrev main_v1483 : Ref sig .tc := ⟨.hbm, 2258, rfl⟩
abbrev main_v1484 : Ref sig .tc := ⟨.hbm, 2259, rfl⟩
abbrev main_cst_317 : Ref sig .tc := ⟨.hbm, 2260, rfl⟩
abbrev main_v1485 : Ref sig .tc := ⟨.hbm, 2261, rfl⟩
abbrev main_v1486 : Ref sig .tc := ⟨.hbm, 2262, rfl⟩
abbrev main_v1487 : Ref sig .tc := ⟨.hbm, 2263, rfl⟩
abbrev main_cst_318 : Ref sig .tc := ⟨.hbm, 2264, rfl⟩
abbrev main_v1488 : Ref sig .tc := ⟨.hbm, 2265, rfl⟩
abbrev main_v1489 : Ref sig .tc := ⟨.hbm, 2266, rfl⟩
abbrev main_v1490 : Ref sig .tc := ⟨.hbm, 2267, rfl⟩
abbrev main_v1491 : Ref sig .tc := ⟨.hbm, 2268, rfl⟩
abbrev main_cst_319 : Ref sig .tc := ⟨.hbm, 2269, rfl⟩
abbrev main_call68_v0 : Ref sig .tc := ⟨.hbm, 2270, rfl⟩
abbrev main_call68_v1 : Ref sig .tc := ⟨.hbm, 2271, rfl⟩
abbrev main_v1492 : Ref sig .tc := ⟨.hbm, 2272, rfl⟩
abbrev main_cst_320 : Ref sig .tc := ⟨.hbm, 2273, rfl⟩
abbrev main_v1493 : Ref sig .tc := ⟨.hbm, 2274, rfl⟩
abbrev main_cst_321 : Ref sig .tc := ⟨.hbm, 2275, rfl⟩
abbrev main_v1494 : Ref sig .tc := ⟨.hbm, 2276, rfl⟩
abbrev main_v1495 : Ref sig .tc := ⟨.hbm, 2277, rfl⟩
abbrev main_v1496 : Ref sig .tc := ⟨.hbm, 2278, rfl⟩
abbrev main_v1497 : Ref sig .tc := ⟨.hbm, 2279, rfl⟩
abbrev main_v1498 : Ref sig .tc := ⟨.hbm, 2280, rfl⟩
abbrev main_v1499 : Ref sig .tc := ⟨.hbm, 2281, rfl⟩
abbrev main_cst_322 : Ref sig .tc := ⟨.hbm, 2282, rfl⟩
abbrev main_v1500 : Ref sig .tc := ⟨.hbm, 2283, rfl⟩
abbrev main_v1501 : Ref sig .tc := ⟨.hbm, 2284, rfl⟩
abbrev main_v1502 : Ref sig .tc := ⟨.hbm, 2285, rfl⟩
abbrev main_v1503 : Ref sig .tc := ⟨.hbm, 2286, rfl⟩
abbrev main_v1504 : Ref sig .tc := ⟨.hbm, 2287, rfl⟩
abbrev main_v1505 : Ref sig .tc := ⟨.hbm, 2288, rfl⟩
abbrev main_call69_cst : Ref sig .tc := ⟨.hbm, 2289, rfl⟩
abbrev main_call69_v0 : Ref sig .tc := ⟨.hbm, 2290, rfl⟩
abbrev main_call69_v1 : Ref sig .tc := ⟨.hbm, 2291, rfl⟩
abbrev main_call69_cst_0 : Ref sig .tc := ⟨.hbm, 2292, rfl⟩
abbrev main_call69_v2 : Ref sig .tc := ⟨.hbm, 2293, rfl⟩
abbrev main_call69_v3 : Ref sig .tc := ⟨.hbm, 2294, rfl⟩
abbrev main_call69_cst_1 : Ref sig .tc := ⟨.hbm, 2295, rfl⟩
abbrev main_call69_call0_v0 : Ref sig .tc := ⟨.hbm, 2296, rfl⟩
abbrev main_call69_call0_v1 : Ref sig .tc := ⟨.hbm, 2297, rfl⟩
abbrev main_call69_v4 : Ref sig .tc := ⟨.hbm, 2298, rfl⟩
abbrev main_call69_v5 : Ref sig .tc := ⟨.hbm, 2299, rfl⟩
abbrev main_call69_cst_2 : Ref sig .tc := ⟨.hbm, 2300, rfl⟩
abbrev main_call69_v6 : Ref sig .tc := ⟨.hbm, 2301, rfl⟩
abbrev main_call69_v7 : Ref sig .tc := ⟨.hbm, 2302, rfl⟩
abbrev main_v1506 : Ref sig .tc := ⟨.hbm, 2303, rfl⟩
abbrev main_v1507 : Ref sig .tc := ⟨.hbm, 2304, rfl⟩
abbrev main_v1508 : Ref sig .tc := ⟨.hbm, 2305, rfl⟩
abbrev main_v1509 : Ref sig .tc := ⟨.hbm, 2306, rfl⟩
abbrev main_v1510 : Ref sig .tc := ⟨.hbm, 2307, rfl⟩
abbrev main_v1511 : Ref sig .tc := ⟨.hbm, 2308, rfl⟩
abbrev main_cst_323 : Ref sig .tc := ⟨.hbm, 2309, rfl⟩
abbrev main_v1512 : Ref sig .tc := ⟨.hbm, 2310, rfl⟩
abbrev main_v1513 : Ref sig .tc := ⟨.hbm, 2311, rfl⟩
abbrev main_v1514 : Ref sig .tc := ⟨.hbm, 2312, rfl⟩
abbrev main_v1515 : Ref sig .tc := ⟨.hbm, 2313, rfl⟩
abbrev main_v1516 : Ref sig .tc := ⟨.hbm, 2314, rfl⟩
abbrev main_v1517 : Ref sig .tc := ⟨.hbm, 2315, rfl⟩
abbrev main_v1518 : Ref sig .tc := ⟨.hbm, 2316, rfl⟩
abbrev main_v1519 : Ref sig .tc := ⟨.hbm, 2317, rfl⟩
abbrev main_v1520 : Ref sig .tc := ⟨.hbm, 2318, rfl⟩
abbrev main_v1521 : Ref sig .tc := ⟨.hbm, 2319, rfl⟩
abbrev main_v1522 : Ref sig .tc := ⟨.hbm, 2320, rfl⟩
abbrev main_v1523 : Ref sig .tc := ⟨.hbm, 2321, rfl⟩
abbrev main_c_324 : Ref sig .tc := ⟨.hbm, 2322, rfl⟩
abbrev main_v1524 : Ref sig .tc := ⟨.hbm, 2323, rfl⟩
abbrev main_v1525 : Ref sig .tc := ⟨.hbm, 2324, rfl⟩
abbrev main_v1526 : Ref sig .tc := ⟨.hbm, 2325, rfl⟩
abbrev main_v1527 : Ref sig .tc := ⟨.hbm, 2326, rfl⟩
abbrev main_cst_325 : Ref sig .tc := ⟨.hbm, 2327, rfl⟩
abbrev main_v1528 : Ref sig .tc := ⟨.hbm, 2328, rfl⟩
abbrev main_v1529 : Ref sig .tc := ⟨.hbm, 2329, rfl⟩
abbrev main_cst_326 : Ref sig .tc := ⟨.hbm, 2330, rfl⟩
abbrev main_v1530 : Ref sig .tc := ⟨.hbm, 2331, rfl⟩
abbrev main_v1531 : Ref sig .tc := ⟨.hbm, 2332, rfl⟩
abbrev main_cst_327 : Ref sig .tc := ⟨.hbm, 2333, rfl⟩
abbrev main_call70_v0 : Ref sig .tc := ⟨.hbm, 2334, rfl⟩
abbrev main_call70_v1 : Ref sig .tc := ⟨.hbm, 2335, rfl⟩
abbrev main_v1532 : Ref sig .tc := ⟨.hbm, 2336, rfl⟩
abbrev main_v1533 : Ref sig .tc := ⟨.hbm, 2337, rfl⟩
abbrev main_v1534 : Ref sig .tc := ⟨.hbm, 2338, rfl⟩
abbrev main_v1535 : Ref sig .tc := ⟨.hbm, 2339, rfl⟩
abbrev main_cst_328 : Ref sig .tc := ⟨.hbm, 2340, rfl⟩
abbrev main_v1536 : Ref sig .tc := ⟨.hbm, 2341, rfl⟩
abbrev main_v1537 : Ref sig .tc := ⟨.hbm, 2342, rfl⟩
abbrev main_v1538 : Ref sig .tc := ⟨.hbm, 2343, rfl⟩
abbrev main_v1539 : Ref sig .tc := ⟨.hbm, 2344, rfl⟩
abbrev main_v1540 : Ref sig .tc := ⟨.hbm, 2345, rfl⟩
abbrev main_cst_329 : Ref sig .tc := ⟨.hbm, 2346, rfl⟩
abbrev main_v1541 : Ref sig .tc := ⟨.hbm, 2347, rfl⟩
abbrev main_v1542 : Ref sig .tc := ⟨.hbm, 2348, rfl⟩
abbrev main_v1543 : Ref sig .tc := ⟨.hbm, 2349, rfl⟩
abbrev main_v1544 : Ref sig .tc := ⟨.hbm, 2350, rfl⟩
abbrev main_cst_330 : Ref sig .tc := ⟨.hbm, 2351, rfl⟩
abbrev main_v1545 : Ref sig .tc := ⟨.hbm, 2352, rfl⟩
abbrev main_v1546 : Ref sig .tc := ⟨.hbm, 2353, rfl⟩
abbrev main_v1547 : Ref sig .tc := ⟨.hbm, 2354, rfl⟩
abbrev main_v1548 : Ref sig .tc := ⟨.hbm, 2355, rfl⟩
abbrev main_v1549 : Ref sig .tc := ⟨.hbm, 2356, rfl⟩
abbrev main_v1550 : Ref sig .tc := ⟨.hbm, 2357, rfl⟩
abbrev main_v1551 : Ref sig .tc := ⟨.hbm, 2358, rfl⟩
abbrev main_v1552 : Ref sig .tc := ⟨.hbm, 2359, rfl⟩
abbrev main_v1553 : Ref sig .tc := ⟨.hbm, 2360, rfl⟩
abbrev main_v1554 : Ref sig .tc := ⟨.hbm, 2361, rfl⟩
abbrev main_v1555 : Ref sig .tc := ⟨.hbm, 2362, rfl⟩
abbrev main_v1556 : Ref sig .tc := ⟨.hbm, 2363, rfl⟩
abbrev main_v1557 : Ref sig .tc := ⟨.hbm, 2364, rfl⟩
abbrev main_cst_331 : Ref sig .tc := ⟨.hbm, 2365, rfl⟩
abbrev main_call71_cst : Ref sig .tc := ⟨.hbm, 2366, rfl⟩
abbrev main_call71_v0 : Ref sig .tc := ⟨.hbm, 2367, rfl⟩
abbrev main_call71_v1 : Ref sig .tc := ⟨.hbm, 2368, rfl⟩
abbrev main_call71_v2 : Ref sig .tc := ⟨.hbm, 2369, rfl⟩
abbrev main_call71_v3 : Ref sig .tc := ⟨.hbm, 2370, rfl⟩
abbrev main_call71_v4 : Ref sig .tc := ⟨.hbm, 2371, rfl⟩
abbrev main_v1558 : Ref sig .tc := ⟨.hbm, 2372, rfl⟩
abbrev main_cst_332 : Ref sig .tc := ⟨.hbm, 2373, rfl⟩
abbrev main_v1559 : Ref sig .tc := ⟨.hbm, 2374, rfl⟩
abbrev main_v1560 : Ref sig .tc := ⟨.hbm, 2375, rfl⟩
abbrev main_v1561 : Ref sig .tc := ⟨.hbm, 2376, rfl⟩
abbrev main_cst_333 : Ref sig .tc := ⟨.hbm, 2377, rfl⟩
abbrev main_v1562 : Ref sig .tc := ⟨.hbm, 2378, rfl⟩
abbrev main_cst_334 : Ref sig .tc := ⟨.hbm, 2379, rfl⟩
abbrev main_v1563 : Ref sig .tc := ⟨.hbm, 2380, rfl⟩
abbrev main_v1564 : Ref sig .tc := ⟨.hbm, 2381, rfl⟩
abbrev main_v1565 : Ref sig .tc := ⟨.hbm, 2382, rfl⟩
abbrev main_v1566 : Ref sig .tc := ⟨.hbm, 2383, rfl⟩
abbrev main_cst_335 : Ref sig .tc := ⟨.hbm, 2384, rfl⟩
abbrev main_v1567 : Ref sig .tc := ⟨.hbm, 2385, rfl⟩
abbrev main_v1568 : Ref sig .tc := ⟨.hbm, 2386, rfl⟩
abbrev main_v1569 : Ref sig .tc := ⟨.hbm, 2387, rfl⟩
abbrev main_cst_336 : Ref sig .tc := ⟨.hbm, 2388, rfl⟩
abbrev main_v1570 : Ref sig .tc := ⟨.hbm, 2389, rfl⟩
abbrev main_v1571 : Ref sig .tc := ⟨.hbm, 2390, rfl⟩
abbrev main_v1572 : Ref sig .tc := ⟨.hbm, 2391, rfl⟩
abbrev main_v1573 : Ref sig .tc := ⟨.hbm, 2392, rfl⟩
abbrev main_cst_337 : Ref sig .tc := ⟨.hbm, 2393, rfl⟩
abbrev main_call72_v0 : Ref sig .tc := ⟨.hbm, 2394, rfl⟩
abbrev main_call72_v1 : Ref sig .tc := ⟨.hbm, 2395, rfl⟩
abbrev main_v1574 : Ref sig .tc := ⟨.hbm, 2396, rfl⟩
abbrev main_cst_338 : Ref sig .tc := ⟨.hbm, 2397, rfl⟩
abbrev main_v1575 : Ref sig .tc := ⟨.hbm, 2398, rfl⟩
abbrev main_cst_339 : Ref sig .tc := ⟨.hbm, 2399, rfl⟩
abbrev main_v1576 : Ref sig .tc := ⟨.hbm, 2400, rfl⟩
abbrev main_v1577 : Ref sig .tc := ⟨.hbm, 2401, rfl⟩
abbrev main_v1578 : Ref sig .tc := ⟨.hbm, 2402, rfl⟩
abbrev main_v1579 : Ref sig .tc := ⟨.hbm, 2403, rfl⟩
abbrev main_v1580 : Ref sig .tc := ⟨.hbm, 2404, rfl⟩
abbrev main_v1581 : Ref sig .tc := ⟨.hbm, 2405, rfl⟩
abbrev main_cst_340 : Ref sig .tc := ⟨.hbm, 2406, rfl⟩
abbrev main_v1582 : Ref sig .tc := ⟨.hbm, 2407, rfl⟩
abbrev main_v1583 : Ref sig .tc := ⟨.hbm, 2408, rfl⟩
abbrev main_v1584 : Ref sig .tc := ⟨.hbm, 2409, rfl⟩
abbrev main_v1585 : Ref sig .tc := ⟨.hbm, 2410, rfl⟩
abbrev main_v1586 : Ref sig .tc := ⟨.hbm, 2411, rfl⟩
abbrev main_v1587 : Ref sig .tc := ⟨.hbm, 2412, rfl⟩
abbrev main_call73_cst : Ref sig .tc := ⟨.hbm, 2413, rfl⟩
abbrev main_call73_v0 : Ref sig .tc := ⟨.hbm, 2414, rfl⟩
abbrev main_call73_v1 : Ref sig .tc := ⟨.hbm, 2415, rfl⟩
abbrev main_call73_cst_0 : Ref sig .tc := ⟨.hbm, 2416, rfl⟩
abbrev main_call73_v2 : Ref sig .tc := ⟨.hbm, 2417, rfl⟩
abbrev main_call73_v3 : Ref sig .tc := ⟨.hbm, 2418, rfl⟩
abbrev main_call73_cst_1 : Ref sig .tc := ⟨.hbm, 2419, rfl⟩
abbrev main_call73_call0_v0 : Ref sig .tc := ⟨.hbm, 2420, rfl⟩
abbrev main_call73_call0_v1 : Ref sig .tc := ⟨.hbm, 2421, rfl⟩
abbrev main_call73_v4 : Ref sig .tc := ⟨.hbm, 2422, rfl⟩
abbrev main_call73_v5 : Ref sig .tc := ⟨.hbm, 2423, rfl⟩
abbrev main_call73_cst_2 : Ref sig .tc := ⟨.hbm, 2424, rfl⟩
abbrev main_call73_v6 : Ref sig .tc := ⟨.hbm, 2425, rfl⟩
abbrev main_call73_v7 : Ref sig .tc := ⟨.hbm, 2426, rfl⟩
abbrev main_v1588 : Ref sig .tc := ⟨.hbm, 2427, rfl⟩
abbrev main_v1589 : Ref sig .tc := ⟨.hbm, 2428, rfl⟩
abbrev main_v1590 : Ref sig .tc := ⟨.hbm, 2429, rfl⟩
abbrev main_v1591 : Ref sig .tc := ⟨.hbm, 2430, rfl⟩
abbrev main_v1592 : Ref sig .tc := ⟨.hbm, 2431, rfl⟩
abbrev main_v1593 : Ref sig .tc := ⟨.hbm, 2432, rfl⟩
abbrev main_v1594 : Ref sig .tc := ⟨.hbm, 2433, rfl⟩
abbrev main_v1595 : Ref sig .tc := ⟨.hbm, 2434, rfl⟩
abbrev main_v1596 : Ref sig .tc := ⟨.hbm, 2435, rfl⟩
abbrev main_v1597 : Ref sig .tc := ⟨.hbm, 2436, rfl⟩
abbrev main_v1598 : Ref sig .tc := ⟨.hbm, 2437, rfl⟩
abbrev main_v1599 : Ref sig .tc := ⟨.hbm, 2438, rfl⟩
abbrev main_cst_341 : Ref sig .tc := ⟨.hbm, 2439, rfl⟩
abbrev main_call74_cst : Ref sig .tc := ⟨.hbm, 2440, rfl⟩
abbrev main_call74_v0 : Ref sig .tc := ⟨.hbm, 2441, rfl⟩
abbrev main_call74_v1 : Ref sig .tc := ⟨.hbm, 2442, rfl⟩
abbrev main_call74_v2 : Ref sig .tc := ⟨.hbm, 2443, rfl⟩
abbrev main_call74_v3 : Ref sig .tc := ⟨.hbm, 2444, rfl⟩
abbrev main_call74_v4 : Ref sig .tc := ⟨.hbm, 2445, rfl⟩
abbrev main_v1600 : Ref sig .tc := ⟨.hbm, 2446, rfl⟩
abbrev main_cst_342 : Ref sig .tc := ⟨.hbm, 2447, rfl⟩
abbrev main_v1601 : Ref sig .tc := ⟨.hbm, 2448, rfl⟩
abbrev main_v1602 : Ref sig .tc := ⟨.hbm, 2449, rfl⟩
abbrev main_v1603 : Ref sig .tc := ⟨.hbm, 2450, rfl⟩
abbrev main_cst_343 : Ref sig .tc := ⟨.hbm, 2451, rfl⟩
abbrev main_v1604 : Ref sig .tc := ⟨.hbm, 2452, rfl⟩
abbrev main_cst_344 : Ref sig .tc := ⟨.hbm, 2453, rfl⟩
abbrev main_v1605 : Ref sig .tc := ⟨.hbm, 2454, rfl⟩
abbrev main_v1606 : Ref sig .tc := ⟨.hbm, 2455, rfl⟩
abbrev main_v1607 : Ref sig .tc := ⟨.hbm, 2456, rfl⟩
abbrev main_v1608 : Ref sig .tc := ⟨.hbm, 2457, rfl⟩
abbrev main_cst_345 : Ref sig .tc := ⟨.hbm, 2458, rfl⟩
abbrev main_v1609 : Ref sig .tc := ⟨.hbm, 2459, rfl⟩
abbrev main_v1610 : Ref sig .tc := ⟨.hbm, 2460, rfl⟩
abbrev main_v1611 : Ref sig .tc := ⟨.hbm, 2461, rfl⟩
abbrev main_cst_346 : Ref sig .tc := ⟨.hbm, 2462, rfl⟩
abbrev main_v1612 : Ref sig .tc := ⟨.hbm, 2463, rfl⟩
abbrev main_v1613 : Ref sig .tc := ⟨.hbm, 2464, rfl⟩
abbrev main_v1614 : Ref sig .tc := ⟨.hbm, 2465, rfl⟩
abbrev main_v1615 : Ref sig .tc := ⟨.hbm, 2466, rfl⟩
abbrev main_cst_347 : Ref sig .tc := ⟨.hbm, 2467, rfl⟩
abbrev main_call75_v0 : Ref sig .tc := ⟨.hbm, 2468, rfl⟩
abbrev main_call75_v1 : Ref sig .tc := ⟨.hbm, 2469, rfl⟩
abbrev main_v1616 : Ref sig .tc := ⟨.hbm, 2470, rfl⟩
abbrev main_cst_348 : Ref sig .tc := ⟨.hbm, 2471, rfl⟩
abbrev main_v1617 : Ref sig .tc := ⟨.hbm, 2472, rfl⟩
abbrev main_cst_349 : Ref sig .tc := ⟨.hbm, 2473, rfl⟩
abbrev main_v1618 : Ref sig .tc := ⟨.hbm, 2474, rfl⟩
abbrev main_v1619 : Ref sig .tc := ⟨.hbm, 2475, rfl⟩
abbrev main_v1620 : Ref sig .tc := ⟨.hbm, 2476, rfl⟩
abbrev main_v1621 : Ref sig .tc := ⟨.hbm, 2477, rfl⟩
abbrev main_v1622 : Ref sig .tc := ⟨.hbm, 2478, rfl⟩
abbrev main_v1623 : Ref sig .tc := ⟨.hbm, 2479, rfl⟩
abbrev main_cst_350 : Ref sig .tc := ⟨.hbm, 2480, rfl⟩
abbrev main_v1624 : Ref sig .tc := ⟨.hbm, 2481, rfl⟩
abbrev main_v1625 : Ref sig .tc := ⟨.hbm, 2482, rfl⟩
abbrev main_v1626 : Ref sig .tc := ⟨.hbm, 2483, rfl⟩
abbrev main_v1627 : Ref sig .tc := ⟨.hbm, 2484, rfl⟩
abbrev main_v1628 : Ref sig .tc := ⟨.hbm, 2485, rfl⟩
abbrev main_v1629 : Ref sig .tc := ⟨.hbm, 2486, rfl⟩
abbrev main_call76_cst : Ref sig .tc := ⟨.hbm, 2487, rfl⟩
abbrev main_call76_v0 : Ref sig .tc := ⟨.hbm, 2488, rfl⟩
abbrev main_call76_v1 : Ref sig .tc := ⟨.hbm, 2489, rfl⟩
abbrev main_call76_cst_0 : Ref sig .tc := ⟨.hbm, 2490, rfl⟩
abbrev main_call76_v2 : Ref sig .tc := ⟨.hbm, 2491, rfl⟩
abbrev main_call76_v3 : Ref sig .tc := ⟨.hbm, 2492, rfl⟩
abbrev main_call76_cst_1 : Ref sig .tc := ⟨.hbm, 2493, rfl⟩
abbrev main_call76_call0_v0 : Ref sig .tc := ⟨.hbm, 2494, rfl⟩
abbrev main_call76_call0_v1 : Ref sig .tc := ⟨.hbm, 2495, rfl⟩
abbrev main_call76_v4 : Ref sig .tc := ⟨.hbm, 2496, rfl⟩
abbrev main_call76_v5 : Ref sig .tc := ⟨.hbm, 2497, rfl⟩
abbrev main_call76_cst_2 : Ref sig .tc := ⟨.hbm, 2498, rfl⟩
abbrev main_call76_v6 : Ref sig .tc := ⟨.hbm, 2499, rfl⟩
abbrev main_call76_v7 : Ref sig .tc := ⟨.hbm, 2500, rfl⟩
abbrev main_v1630 : Ref sig .tc := ⟨.hbm, 2501, rfl⟩
abbrev main_v1631 : Ref sig .tc := ⟨.hbm, 2502, rfl⟩
abbrev main_v1632 : Ref sig .tc := ⟨.hbm, 2503, rfl⟩
abbrev main_v1633 : Ref sig .tc := ⟨.hbm, 2504, rfl⟩
abbrev main_v1634 : Ref sig .tc := ⟨.hbm, 2505, rfl⟩
abbrev main_v1635 : Ref sig .tc := ⟨.hbm, 2506, rfl⟩
abbrev main_cst_351 : Ref sig .tc := ⟨.hbm, 2507, rfl⟩
abbrev main_v1636 : Ref sig .tc := ⟨.hbm, 2508, rfl⟩
abbrev main_v1637 : Ref sig .tc := ⟨.hbm, 2509, rfl⟩
abbrev main_v1638 : Ref sig .tc := ⟨.hbm, 2510, rfl⟩
abbrev main_v1639 : Ref sig .tc := ⟨.hbm, 2511, rfl⟩
abbrev main_v1640 : Ref sig .tc := ⟨.hbm, 2512, rfl⟩
abbrev main_v1641 : Ref sig .tc := ⟨.hbm, 2513, rfl⟩
abbrev main_v1642 : Ref sig .tc := ⟨.hbm, 2514, rfl⟩
abbrev main_v1643 : Ref sig .tc := ⟨.hbm, 2515, rfl⟩
abbrev main_v1644 : Ref sig .tc := ⟨.hbm, 2516, rfl⟩
abbrev main_v1645 : Ref sig .tc := ⟨.hbm, 2517, rfl⟩
abbrev main_v1646 : Ref sig .tc := ⟨.hbm, 2518, rfl⟩
abbrev main_v1647 : Ref sig .tc := ⟨.hbm, 2519, rfl⟩
abbrev main_c_352 : Ref sig .tc := ⟨.hbm, 2520, rfl⟩
abbrev main_v1648 : Ref sig .tc := ⟨.hbm, 2521, rfl⟩
abbrev main_v1649 : Ref sig .tc := ⟨.hbm, 2522, rfl⟩
abbrev main_v1650 : Ref sig .tc := ⟨.hbm, 2523, rfl⟩
abbrev main_v1651 : Ref sig .tc := ⟨.hbm, 2524, rfl⟩
abbrev main_cst_353 : Ref sig .tc := ⟨.hbm, 2525, rfl⟩
abbrev main_v1652 : Ref sig .tc := ⟨.hbm, 2526, rfl⟩
abbrev main_v1653 : Ref sig .tc := ⟨.hbm, 2527, rfl⟩
abbrev main_cst_354 : Ref sig .tc := ⟨.hbm, 2528, rfl⟩
abbrev main_v1654 : Ref sig .tc := ⟨.hbm, 2529, rfl⟩
abbrev main_v1655 : Ref sig .tc := ⟨.hbm, 2530, rfl⟩
abbrev main_cst_355 : Ref sig .tc := ⟨.hbm, 2531, rfl⟩
abbrev main_call77_v0 : Ref sig .tc := ⟨.hbm, 2532, rfl⟩
abbrev main_call77_v1 : Ref sig .tc := ⟨.hbm, 2533, rfl⟩
abbrev main_v1656 : Ref sig .tc := ⟨.hbm, 2534, rfl⟩
abbrev main_v1657 : Ref sig .tc := ⟨.hbm, 2535, rfl⟩
abbrev main_v1658 : Ref sig .tc := ⟨.hbm, 2536, rfl⟩
abbrev main_v1659 : Ref sig .tc := ⟨.hbm, 2537, rfl⟩
abbrev main_cst_356 : Ref sig .tc := ⟨.hbm, 2538, rfl⟩
abbrev main_v1660 : Ref sig .tc := ⟨.hbm, 2539, rfl⟩
abbrev main_v1661 : Ref sig .tc := ⟨.hbm, 2540, rfl⟩
abbrev main_v1662 : Ref sig .tc := ⟨.hbm, 2541, rfl⟩
abbrev main_v1663 : Ref sig .tc := ⟨.hbm, 2542, rfl⟩
abbrev main_v1664 : Ref sig .tc := ⟨.hbm, 2543, rfl⟩
abbrev main_cst_357 : Ref sig .tc := ⟨.hbm, 2544, rfl⟩
abbrev main_v1665 : Ref sig .tc := ⟨.hbm, 2545, rfl⟩
abbrev main_v1666 : Ref sig .tc := ⟨.hbm, 2546, rfl⟩
abbrev main_v1667 : Ref sig .tc := ⟨.hbm, 2547, rfl⟩
abbrev main_v1668 : Ref sig .tc := ⟨.hbm, 2548, rfl⟩
abbrev main_cst_358 : Ref sig .tc := ⟨.hbm, 2549, rfl⟩
abbrev main_v1669 : Ref sig .tc := ⟨.hbm, 2550, rfl⟩
abbrev main_v1670 : Ref sig .tc := ⟨.hbm, 2551, rfl⟩
abbrev main_v1671 : Ref sig .tc := ⟨.hbm, 2552, rfl⟩
abbrev main_v1672 : Ref sig .tc := ⟨.hbm, 2553, rfl⟩
abbrev main_v1673 : Ref sig .tc := ⟨.hbm, 2554, rfl⟩
abbrev main_v1674 : Ref sig .tc := ⟨.hbm, 2555, rfl⟩
abbrev main_v1675 : Ref sig .tc := ⟨.hbm, 2556, rfl⟩
abbrev main_v1676 : Ref sig .tc := ⟨.hbm, 2557, rfl⟩
abbrev main_v1677 : Ref sig .tc := ⟨.hbm, 2558, rfl⟩
abbrev main_v1678 : Ref sig .tc := ⟨.hbm, 2559, rfl⟩
abbrev main_v1679 : Ref sig .tc := ⟨.hbm, 2560, rfl⟩
abbrev main_v1680 : Ref sig .tc := ⟨.hbm, 2561, rfl⟩
abbrev main_v1681 : Ref sig .tc := ⟨.hbm, 2562, rfl⟩
abbrev main_cst_359 : Ref sig .tc := ⟨.hbm, 2563, rfl⟩
abbrev main_call78_cst : Ref sig .tc := ⟨.hbm, 2564, rfl⟩
abbrev main_call78_v0 : Ref sig .tc := ⟨.hbm, 2565, rfl⟩
abbrev main_call78_v1 : Ref sig .tc := ⟨.hbm, 2566, rfl⟩
abbrev main_call78_v2 : Ref sig .tc := ⟨.hbm, 2567, rfl⟩
abbrev main_call78_v3 : Ref sig .tc := ⟨.hbm, 2568, rfl⟩
abbrev main_call78_v4 : Ref sig .tc := ⟨.hbm, 2569, rfl⟩
abbrev main_v1682 : Ref sig .tc := ⟨.hbm, 2570, rfl⟩
abbrev main_cst_360 : Ref sig .tc := ⟨.hbm, 2571, rfl⟩
abbrev main_v1683 : Ref sig .tc := ⟨.hbm, 2572, rfl⟩
abbrev main_v1684 : Ref sig .tc := ⟨.hbm, 2573, rfl⟩
abbrev main_v1685 : Ref sig .tc := ⟨.hbm, 2574, rfl⟩
abbrev main_cst_361 : Ref sig .tc := ⟨.hbm, 2575, rfl⟩
abbrev main_v1686 : Ref sig .tc := ⟨.hbm, 2576, rfl⟩
abbrev main_cst_362 : Ref sig .tc := ⟨.hbm, 2577, rfl⟩
abbrev main_v1687 : Ref sig .tc := ⟨.hbm, 2578, rfl⟩
abbrev main_v1688 : Ref sig .tc := ⟨.hbm, 2579, rfl⟩
abbrev main_v1689 : Ref sig .tc := ⟨.hbm, 2580, rfl⟩
abbrev main_v1690 : Ref sig .tc := ⟨.hbm, 2581, rfl⟩
abbrev main_cst_363 : Ref sig .tc := ⟨.hbm, 2582, rfl⟩
abbrev main_v1691 : Ref sig .tc := ⟨.hbm, 2583, rfl⟩
abbrev main_v1692 : Ref sig .tc := ⟨.hbm, 2584, rfl⟩
abbrev main_v1693 : Ref sig .tc := ⟨.hbm, 2585, rfl⟩
abbrev main_cst_364 : Ref sig .tc := ⟨.hbm, 2586, rfl⟩
abbrev main_v1694 : Ref sig .tc := ⟨.hbm, 2587, rfl⟩
abbrev main_v1695 : Ref sig .tc := ⟨.hbm, 2588, rfl⟩
abbrev main_v1696 : Ref sig .tc := ⟨.hbm, 2589, rfl⟩
abbrev main_v1697 : Ref sig .tc := ⟨.hbm, 2590, rfl⟩
abbrev main_cst_365 : Ref sig .tc := ⟨.hbm, 2591, rfl⟩
abbrev main_call79_v0 : Ref sig .tc := ⟨.hbm, 2592, rfl⟩
abbrev main_call79_v1 : Ref sig .tc := ⟨.hbm, 2593, rfl⟩
abbrev main_v1698 : Ref sig .tc := ⟨.hbm, 2594, rfl⟩
abbrev main_cst_366 : Ref sig .tc := ⟨.hbm, 2595, rfl⟩
abbrev main_v1699 : Ref sig .tc := ⟨.hbm, 2596, rfl⟩
abbrev main_cst_367 : Ref sig .tc := ⟨.hbm, 2597, rfl⟩
abbrev main_v1700 : Ref sig .tc := ⟨.hbm, 2598, rfl⟩
abbrev main_v1701 : Ref sig .tc := ⟨.hbm, 2599, rfl⟩
abbrev main_v1702 : Ref sig .tc := ⟨.hbm, 2600, rfl⟩
abbrev main_v1703 : Ref sig .tc := ⟨.hbm, 2601, rfl⟩
abbrev main_v1704 : Ref sig .tc := ⟨.hbm, 2602, rfl⟩
abbrev main_v1705 : Ref sig .tc := ⟨.hbm, 2603, rfl⟩
abbrev main_cst_368 : Ref sig .tc := ⟨.hbm, 2604, rfl⟩
abbrev main_v1706 : Ref sig .tc := ⟨.hbm, 2605, rfl⟩
abbrev main_v1707 : Ref sig .tc := ⟨.hbm, 2606, rfl⟩
abbrev main_v1708 : Ref sig .tc := ⟨.hbm, 2607, rfl⟩
abbrev main_v1709 : Ref sig .tc := ⟨.hbm, 2608, rfl⟩
abbrev main_v1710 : Ref sig .tc := ⟨.hbm, 2609, rfl⟩
abbrev main_v1711 : Ref sig .tc := ⟨.hbm, 2610, rfl⟩
abbrev main_call80_cst : Ref sig .tc := ⟨.hbm, 2611, rfl⟩
abbrev main_call80_v0 : Ref sig .tc := ⟨.hbm, 2612, rfl⟩
abbrev main_call80_v1 : Ref sig .tc := ⟨.hbm, 2613, rfl⟩
abbrev main_call80_cst_0 : Ref sig .tc := ⟨.hbm, 2614, rfl⟩
abbrev main_call80_v2 : Ref sig .tc := ⟨.hbm, 2615, rfl⟩
abbrev main_call80_v3 : Ref sig .tc := ⟨.hbm, 2616, rfl⟩
abbrev main_call80_cst_1 : Ref sig .tc := ⟨.hbm, 2617, rfl⟩
abbrev main_call80_call0_v0 : Ref sig .tc := ⟨.hbm, 2618, rfl⟩
abbrev main_call80_call0_v1 : Ref sig .tc := ⟨.hbm, 2619, rfl⟩
abbrev main_call80_v4 : Ref sig .tc := ⟨.hbm, 2620, rfl⟩
abbrev main_call80_v5 : Ref sig .tc := ⟨.hbm, 2621, rfl⟩
abbrev main_call80_cst_2 : Ref sig .tc := ⟨.hbm, 2622, rfl⟩
abbrev main_call80_v6 : Ref sig .tc := ⟨.hbm, 2623, rfl⟩
abbrev main_call80_v7 : Ref sig .tc := ⟨.hbm, 2624, rfl⟩
abbrev main_v1712 : Ref sig .tc := ⟨.hbm, 2625, rfl⟩
abbrev main_v1713 : Ref sig .tc := ⟨.hbm, 2626, rfl⟩
abbrev main_v1714 : Ref sig .tc := ⟨.hbm, 2627, rfl⟩
abbrev main_v1715 : Ref sig .tc := ⟨.hbm, 2628, rfl⟩
abbrev main_v1716 : Ref sig .tc := ⟨.hbm, 2629, rfl⟩
abbrev main_v1717 : Ref sig .tc := ⟨.hbm, 2630, rfl⟩
abbrev main_v1718 : Ref sig .tc := ⟨.hbm, 2631, rfl⟩
abbrev main_v1719 : Ref sig .tc := ⟨.hbm, 2632, rfl⟩
abbrev main_v1720 : Ref sig .tc := ⟨.hbm, 2633, rfl⟩
abbrev main_v1721 : Ref sig .tc := ⟨.hbm, 2634, rfl⟩
abbrev main_v1722 : Ref sig .tc := ⟨.hbm, 2635, rfl⟩
abbrev main_v1723 : Ref sig .tc := ⟨.hbm, 2636, rfl⟩
abbrev main_cst_369 : Ref sig .tc := ⟨.hbm, 2637, rfl⟩
abbrev main_call81_cst : Ref sig .tc := ⟨.hbm, 2638, rfl⟩
abbrev main_call81_v0 : Ref sig .tc := ⟨.hbm, 2639, rfl⟩
abbrev main_call81_v1 : Ref sig .tc := ⟨.hbm, 2640, rfl⟩
abbrev main_call81_v2 : Ref sig .tc := ⟨.hbm, 2641, rfl⟩
abbrev main_call81_v3 : Ref sig .tc := ⟨.hbm, 2642, rfl⟩
abbrev main_call81_v4 : Ref sig .tc := ⟨.hbm, 2643, rfl⟩
abbrev main_v1724 : Ref sig .tc := ⟨.hbm, 2644, rfl⟩
abbrev main_cst_370 : Ref sig .tc := ⟨.hbm, 2645, rfl⟩
abbrev main_v1725 : Ref sig .tc := ⟨.hbm, 2646, rfl⟩
abbrev main_v1726 : Ref sig .tc := ⟨.hbm, 2647, rfl⟩
abbrev main_v1727 : Ref sig .tc := ⟨.hbm, 2648, rfl⟩
abbrev main_cst_371 : Ref sig .tc := ⟨.hbm, 2649, rfl⟩
abbrev main_v1728 : Ref sig .tc := ⟨.hbm, 2650, rfl⟩
abbrev main_cst_372 : Ref sig .tc := ⟨.hbm, 2651, rfl⟩
abbrev main_v1729 : Ref sig .tc := ⟨.hbm, 2652, rfl⟩
abbrev main_v1730 : Ref sig .tc := ⟨.hbm, 2653, rfl⟩
abbrev main_v1731 : Ref sig .tc := ⟨.hbm, 2654, rfl⟩
abbrev main_v1732 : Ref sig .tc := ⟨.hbm, 2655, rfl⟩
abbrev main_cst_373 : Ref sig .tc := ⟨.hbm, 2656, rfl⟩
abbrev main_v1733 : Ref sig .tc := ⟨.hbm, 2657, rfl⟩
abbrev main_v1734 : Ref sig .tc := ⟨.hbm, 2658, rfl⟩
abbrev main_v1735 : Ref sig .tc := ⟨.hbm, 2659, rfl⟩
abbrev main_cst_374 : Ref sig .tc := ⟨.hbm, 2660, rfl⟩
abbrev main_v1736 : Ref sig .tc := ⟨.hbm, 2661, rfl⟩
abbrev main_v1737 : Ref sig .tc := ⟨.hbm, 2662, rfl⟩
abbrev main_v1738 : Ref sig .tc := ⟨.hbm, 2663, rfl⟩
abbrev main_v1739 : Ref sig .tc := ⟨.hbm, 2664, rfl⟩
abbrev main_cst_375 : Ref sig .tc := ⟨.hbm, 2665, rfl⟩
abbrev main_call82_v0 : Ref sig .tc := ⟨.hbm, 2666, rfl⟩
abbrev main_call82_v1 : Ref sig .tc := ⟨.hbm, 2667, rfl⟩
abbrev main_v1740 : Ref sig .tc := ⟨.hbm, 2668, rfl⟩
abbrev main_cst_376 : Ref sig .tc := ⟨.hbm, 2669, rfl⟩
abbrev main_v1741 : Ref sig .tc := ⟨.hbm, 2670, rfl⟩
abbrev main_cst_377 : Ref sig .tc := ⟨.hbm, 2671, rfl⟩
abbrev main_v1742 : Ref sig .tc := ⟨.hbm, 2672, rfl⟩
abbrev main_v1743 : Ref sig .tc := ⟨.hbm, 2673, rfl⟩
abbrev main_v1744 : Ref sig .tc := ⟨.hbm, 2674, rfl⟩
abbrev main_v1745 : Ref sig .tc := ⟨.hbm, 2675, rfl⟩
abbrev main_v1746 : Ref sig .tc := ⟨.hbm, 2676, rfl⟩
abbrev main_v1747 : Ref sig .tc := ⟨.hbm, 2677, rfl⟩
abbrev main_cst_378 : Ref sig .tc := ⟨.hbm, 2678, rfl⟩
abbrev main_v1748 : Ref sig .tc := ⟨.hbm, 2679, rfl⟩
abbrev main_v1749 : Ref sig .tc := ⟨.hbm, 2680, rfl⟩
abbrev main_v1750 : Ref sig .tc := ⟨.hbm, 2681, rfl⟩
abbrev main_v1751 : Ref sig .tc := ⟨.hbm, 2682, rfl⟩
abbrev main_v1752 : Ref sig .tc := ⟨.hbm, 2683, rfl⟩
abbrev main_v1753 : Ref sig .tc := ⟨.hbm, 2684, rfl⟩
abbrev main_call83_cst : Ref sig .tc := ⟨.hbm, 2685, rfl⟩
abbrev main_call83_v0 : Ref sig .tc := ⟨.hbm, 2686, rfl⟩
abbrev main_call83_v1 : Ref sig .tc := ⟨.hbm, 2687, rfl⟩
abbrev main_call83_cst_0 : Ref sig .tc := ⟨.hbm, 2688, rfl⟩
abbrev main_call83_v2 : Ref sig .tc := ⟨.hbm, 2689, rfl⟩
abbrev main_call83_v3 : Ref sig .tc := ⟨.hbm, 2690, rfl⟩
abbrev main_call83_cst_1 : Ref sig .tc := ⟨.hbm, 2691, rfl⟩
abbrev main_call83_call0_v0 : Ref sig .tc := ⟨.hbm, 2692, rfl⟩
abbrev main_call83_call0_v1 : Ref sig .tc := ⟨.hbm, 2693, rfl⟩
abbrev main_call83_v4 : Ref sig .tc := ⟨.hbm, 2694, rfl⟩
abbrev main_call83_v5 : Ref sig .tc := ⟨.hbm, 2695, rfl⟩
abbrev main_call83_cst_2 : Ref sig .tc := ⟨.hbm, 2696, rfl⟩
abbrev main_call83_v6 : Ref sig .tc := ⟨.hbm, 2697, rfl⟩
abbrev main_call83_v7 : Ref sig .tc := ⟨.hbm, 2698, rfl⟩
abbrev main_v1754 : Ref sig .tc := ⟨.hbm, 2699, rfl⟩
abbrev main_v1755 : Ref sig .tc := ⟨.hbm, 2700, rfl⟩
abbrev main_v1756 : Ref sig .tc := ⟨.hbm, 2701, rfl⟩
abbrev main_v1757 : Ref sig .tc := ⟨.hbm, 2702, rfl⟩
abbrev main_v1758 : Ref sig .tc := ⟨.hbm, 2703, rfl⟩
abbrev main_v1759 : Ref sig .tc := ⟨.hbm, 2704, rfl⟩
abbrev main_v1760 : Ref sig .tc := ⟨.hbm, 2705, rfl⟩
abbrev main_call84_cst : Ref sig .tc := ⟨.hbm, 2706, rfl⟩
abbrev main_call84_v0 : Ref sig .tc := ⟨.hbm, 2707, rfl⟩
abbrev main_call84_v1 : Ref sig .tc := ⟨.hbm, 2708, rfl⟩
abbrev main_call84_cst_0 : Ref sig .tc := ⟨.hbm, 2709, rfl⟩
abbrev main_call84_v2 : Ref sig .tc := ⟨.hbm, 2710, rfl⟩
abbrev main_call84_v3 : Ref sig .tc := ⟨.hbm, 2711, rfl⟩
abbrev main_call84_cst_1 : Ref sig .tc := ⟨.hbm, 2712, rfl⟩
abbrev main_call84_call0_v0 : Ref sig .tc := ⟨.hbm, 2713, rfl⟩
abbrev main_call84_call0_v1 : Ref sig .tc := ⟨.hbm, 2714, rfl⟩
abbrev main_call84_v4 : Ref sig .tc := ⟨.hbm, 2715, rfl⟩
abbrev main_call84_v5 : Ref sig .tc := ⟨.hbm, 2716, rfl⟩
abbrev main_call84_cst_2 : Ref sig .tc := ⟨.hbm, 2717, rfl⟩
abbrev main_call84_v6 : Ref sig .tc := ⟨.hbm, 2718, rfl⟩
abbrev main_call84_v7 : Ref sig .tc := ⟨.hbm, 2719, rfl⟩
abbrev main_v1761 : Ref sig .tc := ⟨.hbm, 2720, rfl⟩
abbrev main_v1762 : Ref sig .tc := ⟨.hbm, 2721, rfl⟩
abbrev main_v1763 : Ref sig .tc := ⟨.hbm, 2722, rfl⟩
abbrev main_v1764 : Ref sig .tc := ⟨.hbm, 2723, rfl⟩
abbrev main_v1765 : Ref sig .tc := ⟨.hbm, 2724, rfl⟩
abbrev main_v1766 : Ref sig .tc := ⟨.hbm, 2725, rfl⟩
abbrev main_call85_cst : Ref sig .tc := ⟨.hbm, 2726, rfl⟩
abbrev main_call85_v0 : Ref sig .tc := ⟨.hbm, 2727, rfl⟩
abbrev main_call85_v1 : Ref sig .tc := ⟨.hbm, 2728, rfl⟩
abbrev main_call85_cst_0 : Ref sig .tc := ⟨.hbm, 2729, rfl⟩
abbrev main_call85_v2 : Ref sig .tc := ⟨.hbm, 2730, rfl⟩
abbrev main_call85_v3 : Ref sig .tc := ⟨.hbm, 2731, rfl⟩
abbrev main_call85_cst_1 : Ref sig .tc := ⟨.hbm, 2732, rfl⟩
abbrev main_call85_call0_v0 : Ref sig .tc := ⟨.hbm, 2733, rfl⟩
abbrev main_call85_call0_v1 : Ref sig .tc := ⟨.hbm, 2734, rfl⟩
abbrev main_call85_v4 : Ref sig .tc := ⟨.hbm, 2735, rfl⟩
abbrev main_call85_v5 : Ref sig .tc := ⟨.hbm, 2736, rfl⟩
abbrev main_call85_cst_2 : Ref sig .tc := ⟨.hbm, 2737, rfl⟩
abbrev main_call85_v6 : Ref sig .tc := ⟨.hbm, 2738, rfl⟩
abbrev main_call85_v7 : Ref sig .tc := ⟨.hbm, 2739, rfl⟩
abbrev main_v1767 : Ref sig .tc := ⟨.hbm, 2740, rfl⟩
abbrev main_v1768 : Ref sig .tc := ⟨.hbm, 2741, rfl⟩
abbrev main_v1769 : Ref sig .tc := ⟨.hbm, 2742, rfl⟩
abbrev main_v1770 : Ref sig .tc := ⟨.hbm, 2743, rfl⟩
abbrev main_v1771 : Ref sig .tc := ⟨.hbm, 2744, rfl⟩
abbrev main_v1772 : Ref sig .tc := ⟨.hbm, 2745, rfl⟩
abbrev main_call86_cst : Ref sig .tc := ⟨.hbm, 2746, rfl⟩
abbrev main_call86_v0 : Ref sig .tc := ⟨.hbm, 2747, rfl⟩
abbrev main_call86_v1 : Ref sig .tc := ⟨.hbm, 2748, rfl⟩
abbrev main_call86_cst_0 : Ref sig .tc := ⟨.hbm, 2749, rfl⟩
abbrev main_call86_v2 : Ref sig .tc := ⟨.hbm, 2750, rfl⟩
abbrev main_call86_v3 : Ref sig .tc := ⟨.hbm, 2751, rfl⟩
abbrev main_call86_cst_1 : Ref sig .tc := ⟨.hbm, 2752, rfl⟩
abbrev main_call86_call0_v0 : Ref sig .tc := ⟨.hbm, 2753, rfl⟩
abbrev main_call86_call0_v1 : Ref sig .tc := ⟨.hbm, 2754, rfl⟩
abbrev main_call86_v4 : Ref sig .tc := ⟨.hbm, 2755, rfl⟩
abbrev main_call86_v5 : Ref sig .tc := ⟨.hbm, 2756, rfl⟩
abbrev main_call86_cst_2 : Ref sig .tc := ⟨.hbm, 2757, rfl⟩
abbrev main_call86_v6 : Ref sig .tc := ⟨.hbm, 2758, rfl⟩
abbrev main_call86_v7 : Ref sig .tc := ⟨.hbm, 2759, rfl⟩
abbrev main_v1773 : Ref sig .tc := ⟨.hbm, 2760, rfl⟩
abbrev main_v1774 : Ref sig .tc := ⟨.hbm, 2761, rfl⟩
abbrev main_v1775 : Ref sig .tc := ⟨.hbm, 2762, rfl⟩
abbrev main_v1776 : Ref sig .tc := ⟨.hbm, 2763, rfl⟩
abbrev main_v1777 : Ref sig .tc := ⟨.hbm, 2764, rfl⟩
abbrev main_v1778 : Ref sig .tc := ⟨.hbm, 2765, rfl⟩
abbrev main_v1779 : Ref sig .tc := ⟨.hbm, 2766, rfl⟩
abbrev main_v1780 : Ref sig .tc := ⟨.hbm, 2767, rfl⟩
abbrev main_v1781 : Ref sig .tc := ⟨.hbm, 2768, rfl⟩
abbrev main_v1782 : Ref sig .tc := ⟨.hbm, 2769, rfl⟩
abbrev main_cst_379 : Ref sig .tc := ⟨.hbm, 2770, rfl⟩
abbrev main_v1783 : Ref sig .tc := ⟨.hbm, 2771, rfl⟩
abbrev main_v1784 : Ref sig .tc := ⟨.hbm, 2772, rfl⟩
abbrev main_cst_380 : Ref sig .tc := ⟨.hbm, 2773, rfl⟩
abbrev main_v1785 : Ref sig .tc := ⟨.hbm, 2774, rfl⟩
abbrev main_v1786 : Ref sig .tc := ⟨.hbm, 2775, rfl⟩
abbrev main_v1787 : Ref sig .tc := ⟨.hbm, 2776, rfl⟩
abbrev main_v1788 : Ref sig .tc := ⟨.hbm, 2777, rfl⟩
abbrev main_v1789 : Ref sig .tc := ⟨.hbm, 2778, rfl⟩
abbrev main_v1790 : Ref sig .tc := ⟨.hbm, 2779, rfl⟩
abbrev main_v1791 : Ref sig .tc := ⟨.hbm, 2780, rfl⟩
abbrev main_v1792 : Ref sig .tc := ⟨.hbm, 2781, rfl⟩
abbrev main_v1793 : Ref sig .tc := ⟨.hbm, 2782, rfl⟩
abbrev main_v1794 : Ref sig .tc := ⟨.hbm, 2783, rfl⟩
abbrev main_v1795 : Ref sig .tc := ⟨.hbm, 2784, rfl⟩
abbrev main_cst_381 : Ref sig .tc := ⟨.hbm, 2785, rfl⟩
abbrev main_v1796 : Ref sig .tc := ⟨.hbm, 2786, rfl⟩
abbrev main_v1797 : Ref sig .tc := ⟨.hbm, 2787, rfl⟩
abbrev main_cst_382 : Ref sig .tc := ⟨.hbm, 2788, rfl⟩
abbrev main_v1798 : Ref sig .tc := ⟨.hbm, 2789, rfl⟩
abbrev main_v1799 : Ref sig .tc := ⟨.hbm, 2790, rfl⟩
abbrev main_v1800 : Ref sig .tc := ⟨.hbm, 2791, rfl⟩
abbrev main_v1801 : Ref sig .tc := ⟨.hbm, 2792, rfl⟩
abbrev main_v1802 : Ref sig .tc := ⟨.hbm, 2793, rfl⟩
abbrev main_v1803 : Ref sig .tc := ⟨.hbm, 2794, rfl⟩
abbrev main_v1804 : Ref sig .tc := ⟨.hbm, 2795, rfl⟩
abbrev main_v1805 : Ref sig .tc := ⟨.hbm, 2796, rfl⟩
abbrev main_v1806 : Ref sig .tc := ⟨.hbm, 2797, rfl⟩
abbrev main_v1807 : Ref sig .tc := ⟨.hbm, 2798, rfl⟩
abbrev main_v1808 : Ref sig .tc := ⟨.hbm, 2799, rfl⟩
abbrev main_cst_383 : Ref sig .tc := ⟨.hbm, 2800, rfl⟩
abbrev main_v1809 : Ref sig .tc := ⟨.hbm, 2801, rfl⟩
abbrev main_v1810 : Ref sig .tc := ⟨.hbm, 2802, rfl⟩
abbrev main_v1811 : Ref sig .tc := ⟨.hbm, 2803, rfl⟩
abbrev main_v1812 : Ref sig .tc := ⟨.hbm, 2804, rfl⟩
abbrev main_v1813 : Ref sig .tc := ⟨.hbm, 2805, rfl⟩
abbrev main_v1814 : Ref sig .tc := ⟨.hbm, 2806, rfl⟩
abbrev main_v1815 : Ref sig .tc := ⟨.hbm, 2807, rfl⟩
abbrev main_v1816 : Ref sig .tc := ⟨.hbm, 2808, rfl⟩
abbrev main_v1817 : Ref sig .tc := ⟨.hbm, 2809, rfl⟩
abbrev main_cst_384 : Ref sig .tc := ⟨.hbm, 2810, rfl⟩
abbrev main_v1818 : Ref sig .tc := ⟨.hbm, 2811, rfl⟩
abbrev main_v1819 : Ref sig .tc := ⟨.hbm, 2812, rfl⟩
abbrev main_v1820 : Ref sig .tc := ⟨.hbm, 2813, rfl⟩
abbrev main_v1821 : Ref sig .tc := ⟨.hbm, 2814, rfl⟩
abbrev main_v1822 : Ref sig .tc := ⟨.hbm, 2815, rfl⟩
abbrev main_v1823 : Ref sig .tc := ⟨.hbm, 2816, rfl⟩
abbrev main_v1824 : Ref sig .tc := ⟨.hbm, 2817, rfl⟩
abbrev main_v1825 : Ref sig .tc := ⟨.hbm, 2818, rfl⟩
abbrev main_v1826 : Ref sig .tc := ⟨.hbm, 2819, rfl⟩
abbrev main_v1827 : Ref sig .tc := ⟨.hbm, 2820, rfl⟩
abbrev main_v1828 : Ref sig .tc := ⟨.hbm, 2821, rfl⟩
abbrev main_v1829 : Ref sig .tc := ⟨.hbm, 2822, rfl⟩
abbrev main_c_385 : Ref sig .tc := ⟨.hbm, 2823, rfl⟩
abbrev main_v1830 : Ref sig .tc := ⟨.hbm, 2824, rfl⟩
abbrev main_v1831 : Ref sig .tc := ⟨.hbm, 2825, rfl⟩
abbrev main_v1832 : Ref sig .tc := ⟨.hbm, 2826, rfl⟩
abbrev main_v1833 : Ref sig .tc := ⟨.hbm, 2827, rfl⟩
abbrev main_cst_386 : Ref sig .tc := ⟨.hbm, 2828, rfl⟩
abbrev main_v1834 : Ref sig .tc := ⟨.hbm, 2829, rfl⟩
abbrev main_v1835 : Ref sig .tc := ⟨.hbm, 2830, rfl⟩
abbrev main_cst_387 : Ref sig .tc := ⟨.hbm, 2831, rfl⟩
abbrev main_v1836 : Ref sig .tc := ⟨.hbm, 2832, rfl⟩
abbrev main_v1837 : Ref sig .tc := ⟨.hbm, 2833, rfl⟩
abbrev main_cst_388 : Ref sig .tc := ⟨.hbm, 2834, rfl⟩
abbrev main_call87_v0 : Ref sig .tc := ⟨.hbm, 2835, rfl⟩
abbrev main_call87_v1 : Ref sig .tc := ⟨.hbm, 2836, rfl⟩
abbrev main_v1838 : Ref sig .tc := ⟨.hbm, 2837, rfl⟩
abbrev main_v1839 : Ref sig .tc := ⟨.hbm, 2838, rfl⟩
abbrev main_v1840 : Ref sig .tc := ⟨.hbm, 2839, rfl⟩
abbrev main_v1841 : Ref sig .tc := ⟨.hbm, 2840, rfl⟩
abbrev main_cst_389 : Ref sig .tc := ⟨.hbm, 2841, rfl⟩
abbrev main_v1842 : Ref sig .tc := ⟨.hbm, 2842, rfl⟩
abbrev main_v1843 : Ref sig .tc := ⟨.hbm, 2843, rfl⟩
abbrev main_v1844 : Ref sig .tc := ⟨.hbm, 2844, rfl⟩
abbrev main_v1845 : Ref sig .tc := ⟨.hbm, 2845, rfl⟩
abbrev main_v1846 : Ref sig .tc := ⟨.hbm, 2846, rfl⟩
abbrev main_cst_390 : Ref sig .tc := ⟨.hbm, 2847, rfl⟩
abbrev main_v1847 : Ref sig .tc := ⟨.hbm, 2848, rfl⟩
abbrev main_v1848 : Ref sig .tc := ⟨.hbm, 2849, rfl⟩
abbrev main_v1849 : Ref sig .tc := ⟨.hbm, 2850, rfl⟩
abbrev main_v1850 : Ref sig .tc := ⟨.hbm, 2851, rfl⟩
abbrev main_cst_391 : Ref sig .tc := ⟨.hbm, 2852, rfl⟩
abbrev main_v1851 : Ref sig .tc := ⟨.hbm, 2853, rfl⟩
abbrev main_v1852 : Ref sig .tc := ⟨.hbm, 2854, rfl⟩
abbrev main_v1853 : Ref sig .tc := ⟨.hbm, 2855, rfl⟩
abbrev main_v1854 : Ref sig .tc := ⟨.hbm, 2856, rfl⟩
abbrev main_v1855 : Ref sig .tc := ⟨.hbm, 2857, rfl⟩
abbrev main_v1856 : Ref sig .tc := ⟨.hbm, 2858, rfl⟩
abbrev main_v1857 : Ref sig .tc := ⟨.hbm, 2859, rfl⟩
abbrev main_v1858 : Ref sig .tc := ⟨.hbm, 2860, rfl⟩
abbrev main_v1859 : Ref sig .tc := ⟨.hbm, 2861, rfl⟩
abbrev main_v1860 : Ref sig .tc := ⟨.hbm, 2862, rfl⟩
abbrev main_v1861 : Ref sig .tc := ⟨.hbm, 2863, rfl⟩
abbrev main_v1862 : Ref sig .tc := ⟨.hbm, 2864, rfl⟩
abbrev main_v1863 : Ref sig .tc := ⟨.hbm, 2865, rfl⟩
abbrev main_cst_392 : Ref sig .tc := ⟨.hbm, 2866, rfl⟩
abbrev main_call88_cst : Ref sig .tc := ⟨.hbm, 2867, rfl⟩
abbrev main_call88_v0 : Ref sig .tc := ⟨.hbm, 2868, rfl⟩
abbrev main_call88_v1 : Ref sig .tc := ⟨.hbm, 2869, rfl⟩
abbrev main_call88_v2 : Ref sig .tc := ⟨.hbm, 2870, rfl⟩
abbrev main_call88_v3 : Ref sig .tc := ⟨.hbm, 2871, rfl⟩
abbrev main_call88_v4 : Ref sig .tc := ⟨.hbm, 2872, rfl⟩
abbrev main_v1864 : Ref sig .tc := ⟨.hbm, 2873, rfl⟩
abbrev main_cst_393 : Ref sig .tc := ⟨.hbm, 2874, rfl⟩
abbrev main_v1865 : Ref sig .tc := ⟨.hbm, 2875, rfl⟩
abbrev main_v1866 : Ref sig .tc := ⟨.hbm, 2876, rfl⟩
abbrev main_v1867 : Ref sig .tc := ⟨.hbm, 2877, rfl⟩
abbrev main_cst_394 : Ref sig .tc := ⟨.hbm, 2878, rfl⟩
abbrev main_v1868 : Ref sig .tc := ⟨.hbm, 2879, rfl⟩
abbrev main_cst_395 : Ref sig .tc := ⟨.hbm, 2880, rfl⟩
abbrev main_v1869 : Ref sig .tc := ⟨.hbm, 2881, rfl⟩
abbrev main_v1870 : Ref sig .tc := ⟨.hbm, 2882, rfl⟩
abbrev main_v1871 : Ref sig .tc := ⟨.hbm, 2883, rfl⟩
abbrev main_v1872 : Ref sig .tc := ⟨.hbm, 2884, rfl⟩
abbrev main_cst_396 : Ref sig .tc := ⟨.hbm, 2885, rfl⟩
abbrev main_v1873 : Ref sig .tc := ⟨.hbm, 2886, rfl⟩
abbrev main_v1874 : Ref sig .tc := ⟨.hbm, 2887, rfl⟩
abbrev main_v1875 : Ref sig .tc := ⟨.hbm, 2888, rfl⟩
abbrev main_cst_397 : Ref sig .tc := ⟨.hbm, 2889, rfl⟩
abbrev main_v1876 : Ref sig .tc := ⟨.hbm, 2890, rfl⟩
abbrev main_v1877 : Ref sig .tc := ⟨.hbm, 2891, rfl⟩
abbrev main_v1878 : Ref sig .tc := ⟨.hbm, 2892, rfl⟩
abbrev main_v1879 : Ref sig .tc := ⟨.hbm, 2893, rfl⟩
abbrev main_cst_398 : Ref sig .tc := ⟨.hbm, 2894, rfl⟩
abbrev main_call89_v0 : Ref sig .tc := ⟨.hbm, 2895, rfl⟩
abbrev main_call89_v1 : Ref sig .tc := ⟨.hbm, 2896, rfl⟩
abbrev main_v1880 : Ref sig .tc := ⟨.hbm, 2897, rfl⟩
abbrev main_cst_399 : Ref sig .tc := ⟨.hbm, 2898, rfl⟩
abbrev main_v1881 : Ref sig .tc := ⟨.hbm, 2899, rfl⟩
abbrev main_cst_400 : Ref sig .tc := ⟨.hbm, 2900, rfl⟩
abbrev main_v1882 : Ref sig .tc := ⟨.hbm, 2901, rfl⟩
abbrev main_v1883 : Ref sig .tc := ⟨.hbm, 2902, rfl⟩
abbrev main_v1884 : Ref sig .tc := ⟨.hbm, 2903, rfl⟩
abbrev main_v1885 : Ref sig .tc := ⟨.hbm, 2904, rfl⟩
abbrev main_v1886 : Ref sig .tc := ⟨.hbm, 2905, rfl⟩
abbrev main_v1887 : Ref sig .tc := ⟨.hbm, 2906, rfl⟩
abbrev main_cst_401 : Ref sig .tc := ⟨.hbm, 2907, rfl⟩
abbrev main_v1888 : Ref sig .tc := ⟨.hbm, 2908, rfl⟩
abbrev main_v1889 : Ref sig .tc := ⟨.hbm, 2909, rfl⟩
abbrev main_v1890 : Ref sig .tc := ⟨.hbm, 2910, rfl⟩
abbrev main_v1891 : Ref sig .tc := ⟨.hbm, 2911, rfl⟩
abbrev main_v1892 : Ref sig .tc := ⟨.hbm, 2912, rfl⟩
abbrev main_v1893 : Ref sig .tc := ⟨.hbm, 2913, rfl⟩
abbrev main_call90_cst : Ref sig .tc := ⟨.hbm, 2914, rfl⟩
abbrev main_call90_v0 : Ref sig .tc := ⟨.hbm, 2915, rfl⟩
abbrev main_call90_v1 : Ref sig .tc := ⟨.hbm, 2916, rfl⟩
abbrev main_call90_cst_0 : Ref sig .tc := ⟨.hbm, 2917, rfl⟩
abbrev main_call90_v2 : Ref sig .tc := ⟨.hbm, 2918, rfl⟩
abbrev main_call90_v3 : Ref sig .tc := ⟨.hbm, 2919, rfl⟩
abbrev main_call90_cst_1 : Ref sig .tc := ⟨.hbm, 2920, rfl⟩
abbrev main_call90_call0_v0 : Ref sig .tc := ⟨.hbm, 2921, rfl⟩
abbrev main_call90_call0_v1 : Ref sig .tc := ⟨.hbm, 2922, rfl⟩
abbrev main_call90_v4 : Ref sig .tc := ⟨.hbm, 2923, rfl⟩
abbrev main_call90_v5 : Ref sig .tc := ⟨.hbm, 2924, rfl⟩
abbrev main_call90_cst_2 : Ref sig .tc := ⟨.hbm, 2925, rfl⟩
abbrev main_call90_v6 : Ref sig .tc := ⟨.hbm, 2926, rfl⟩
abbrev main_call90_v7 : Ref sig .tc := ⟨.hbm, 2927, rfl⟩
abbrev main_v1894 : Ref sig .tc := ⟨.hbm, 2928, rfl⟩
abbrev main_v1895 : Ref sig .tc := ⟨.hbm, 2929, rfl⟩
abbrev main_v1896 : Ref sig .tc := ⟨.hbm, 2930, rfl⟩
abbrev main_v1897 : Ref sig .tc := ⟨.hbm, 2931, rfl⟩
abbrev main_v1898 : Ref sig .tc := ⟨.hbm, 2932, rfl⟩
abbrev main_v1899 : Ref sig .tc := ⟨.hbm, 2933, rfl⟩
abbrev main_v1900 : Ref sig .tc := ⟨.hbm, 2934, rfl⟩
abbrev main_v1901 : Ref sig .tc := ⟨.hbm, 2935, rfl⟩
abbrev main_v1902 : Ref sig .tc := ⟨.hbm, 2936, rfl⟩
abbrev main_v1903 : Ref sig .tc := ⟨.hbm, 2937, rfl⟩
abbrev main_v1904 : Ref sig .tc := ⟨.hbm, 2938, rfl⟩
abbrev main_v1905 : Ref sig .tc := ⟨.hbm, 2939, rfl⟩
abbrev main_cst_402 : Ref sig .tc := ⟨.hbm, 2940, rfl⟩
abbrev main_call91_cst : Ref sig .tc := ⟨.hbm, 2941, rfl⟩
abbrev main_call91_v0 : Ref sig .tc := ⟨.hbm, 2942, rfl⟩
abbrev main_call91_v1 : Ref sig .tc := ⟨.hbm, 2943, rfl⟩
abbrev main_call91_v2 : Ref sig .tc := ⟨.hbm, 2944, rfl⟩
abbrev main_call91_v3 : Ref sig .tc := ⟨.hbm, 2945, rfl⟩
abbrev main_call91_v4 : Ref sig .tc := ⟨.hbm, 2946, rfl⟩
abbrev main_v1906 : Ref sig .tc := ⟨.hbm, 2947, rfl⟩
abbrev main_cst_403 : Ref sig .tc := ⟨.hbm, 2948, rfl⟩
abbrev main_v1907 : Ref sig .tc := ⟨.hbm, 2949, rfl⟩
abbrev main_v1908 : Ref sig .tc := ⟨.hbm, 2950, rfl⟩
abbrev main_v1909 : Ref sig .tc := ⟨.hbm, 2951, rfl⟩
abbrev main_cst_404 : Ref sig .tc := ⟨.hbm, 2952, rfl⟩
abbrev main_v1910 : Ref sig .tc := ⟨.hbm, 2953, rfl⟩
abbrev main_cst_405 : Ref sig .tc := ⟨.hbm, 2954, rfl⟩
abbrev main_v1911 : Ref sig .tc := ⟨.hbm, 2955, rfl⟩
abbrev main_v1912 : Ref sig .tc := ⟨.hbm, 2956, rfl⟩
abbrev main_v1913 : Ref sig .tc := ⟨.hbm, 2957, rfl⟩
abbrev main_v1914 : Ref sig .tc := ⟨.hbm, 2958, rfl⟩
abbrev main_cst_406 : Ref sig .tc := ⟨.hbm, 2959, rfl⟩
abbrev main_v1915 : Ref sig .tc := ⟨.hbm, 2960, rfl⟩
abbrev main_v1916 : Ref sig .tc := ⟨.hbm, 2961, rfl⟩
abbrev main_v1917 : Ref sig .tc := ⟨.hbm, 2962, rfl⟩
abbrev main_cst_407 : Ref sig .tc := ⟨.hbm, 2963, rfl⟩
abbrev main_v1918 : Ref sig .tc := ⟨.hbm, 2964, rfl⟩
abbrev main_v1919 : Ref sig .tc := ⟨.hbm, 2965, rfl⟩
abbrev main_v1920 : Ref sig .tc := ⟨.hbm, 2966, rfl⟩
abbrev main_v1921 : Ref sig .tc := ⟨.hbm, 2967, rfl⟩
abbrev main_cst_408 : Ref sig .tc := ⟨.hbm, 2968, rfl⟩
abbrev main_call92_v0 : Ref sig .tc := ⟨.hbm, 2969, rfl⟩
abbrev main_call92_v1 : Ref sig .tc := ⟨.hbm, 2970, rfl⟩
abbrev main_v1922 : Ref sig .tc := ⟨.hbm, 2971, rfl⟩
abbrev main_cst_409 : Ref sig .tc := ⟨.hbm, 2972, rfl⟩
abbrev main_v1923 : Ref sig .tc := ⟨.hbm, 2973, rfl⟩
abbrev main_cst_410 : Ref sig .tc := ⟨.hbm, 2974, rfl⟩
abbrev main_v1924 : Ref sig .tc := ⟨.hbm, 2975, rfl⟩
abbrev main_v1925 : Ref sig .tc := ⟨.hbm, 2976, rfl⟩
abbrev main_v1926 : Ref sig .tc := ⟨.hbm, 2977, rfl⟩
abbrev main_v1927 : Ref sig .tc := ⟨.hbm, 2978, rfl⟩
abbrev main_v1928 : Ref sig .tc := ⟨.hbm, 2979, rfl⟩
abbrev main_v1929 : Ref sig .tc := ⟨.hbm, 2980, rfl⟩
abbrev main_cst_411 : Ref sig .tc := ⟨.hbm, 2981, rfl⟩
abbrev main_v1930 : Ref sig .tc := ⟨.hbm, 2982, rfl⟩
abbrev main_v1931 : Ref sig .tc := ⟨.hbm, 2983, rfl⟩
abbrev main_v1932 : Ref sig .tc := ⟨.hbm, 2984, rfl⟩
abbrev main_v1933 : Ref sig .tc := ⟨.hbm, 2985, rfl⟩
abbrev main_v1934 : Ref sig .tc := ⟨.hbm, 2986, rfl⟩
abbrev main_v1935 : Ref sig .tc := ⟨.hbm, 2987, rfl⟩
abbrev main_call93_cst : Ref sig .tc := ⟨.hbm, 2988, rfl⟩
abbrev main_call93_v0 : Ref sig .tc := ⟨.hbm, 2989, rfl⟩
abbrev main_call93_v1 : Ref sig .tc := ⟨.hbm, 2990, rfl⟩
abbrev main_call93_cst_0 : Ref sig .tc := ⟨.hbm, 2991, rfl⟩
abbrev main_call93_v2 : Ref sig .tc := ⟨.hbm, 2992, rfl⟩
abbrev main_call93_v3 : Ref sig .tc := ⟨.hbm, 2993, rfl⟩
abbrev main_call93_cst_1 : Ref sig .tc := ⟨.hbm, 2994, rfl⟩
abbrev main_call93_call0_v0 : Ref sig .tc := ⟨.hbm, 2995, rfl⟩
abbrev main_call93_call0_v1 : Ref sig .tc := ⟨.hbm, 2996, rfl⟩
abbrev main_call93_v4 : Ref sig .tc := ⟨.hbm, 2997, rfl⟩
abbrev main_call93_v5 : Ref sig .tc := ⟨.hbm, 2998, rfl⟩
abbrev main_call93_cst_2 : Ref sig .tc := ⟨.hbm, 2999, rfl⟩
abbrev main_call93_v6 : Ref sig .tc := ⟨.hbm, 3000, rfl⟩
abbrev main_call93_v7 : Ref sig .tc := ⟨.hbm, 3001, rfl⟩
abbrev main_v1936 : Ref sig .tc := ⟨.hbm, 3002, rfl⟩
abbrev main_v1937 : Ref sig .tc := ⟨.hbm, 3003, rfl⟩
abbrev main_v1938 : Ref sig .tc := ⟨.hbm, 3004, rfl⟩
abbrev main_v1939 : Ref sig .tc := ⟨.hbm, 3005, rfl⟩
abbrev main_v1940 : Ref sig .tc := ⟨.hbm, 3006, rfl⟩
abbrev main_v1941 : Ref sig .tc := ⟨.hbm, 3007, rfl⟩
abbrev main_v1942 : Ref sig .tc := ⟨.hbm, 3008, rfl⟩
abbrev main_v1943 : Ref sig .tc := ⟨.hbm, 3009, rfl⟩
abbrev main_v1944 : Ref sig .tc := ⟨.hbm, 3010, rfl⟩
abbrev main_v1945 : Ref sig .tc := ⟨.hbm, 3011, rfl⟩
abbrev main_cst_412 : Ref sig .tc := ⟨.hbm, 3012, rfl⟩
abbrev main_v1946 : Ref sig .tc := ⟨.hbm, 3013, rfl⟩
abbrev main_v1947 : Ref sig .tc := ⟨.hbm, 3014, rfl⟩
abbrev main_cst_413 : Ref sig .tc := ⟨.hbm, 3015, rfl⟩
abbrev main_v1948 : Ref sig .tc := ⟨.hbm, 3016, rfl⟩
abbrev main_v1949 : Ref sig .tc := ⟨.hbm, 3017, rfl⟩
abbrev main_v1950 : Ref sig .tc := ⟨.hbm, 3018, rfl⟩
abbrev main_v1951 : Ref sig .tc := ⟨.hbm, 3019, rfl⟩
abbrev main_v1952 : Ref sig .tc := ⟨.hbm, 3020, rfl⟩
abbrev main_v1953 : Ref sig .tc := ⟨.hbm, 3021, rfl⟩
abbrev main_v1954 : Ref sig .tc := ⟨.hbm, 3022, rfl⟩
abbrev main_v1955 : Ref sig .tc := ⟨.hbm, 3023, rfl⟩
abbrev main_v1956 : Ref sig .tc := ⟨.hbm, 3024, rfl⟩
abbrev main_v1957 : Ref sig .tc := ⟨.hbm, 3025, rfl⟩
abbrev main_v1958 : Ref sig .tc := ⟨.hbm, 3026, rfl⟩
abbrev main_cst_414 : Ref sig .tc := ⟨.hbm, 3027, rfl⟩
abbrev main_v1959 : Ref sig .tc := ⟨.hbm, 3028, rfl⟩
abbrev main_v1960 : Ref sig .tc := ⟨.hbm, 3029, rfl⟩
abbrev main_cst_415 : Ref sig .tc := ⟨.hbm, 3030, rfl⟩
abbrev main_v1961 : Ref sig .tc := ⟨.hbm, 3031, rfl⟩
abbrev main_v1962 : Ref sig .tc := ⟨.hbm, 3032, rfl⟩
abbrev main_v1963 : Ref sig .tc := ⟨.hbm, 3033, rfl⟩
abbrev main_v1964 : Ref sig .tc := ⟨.hbm, 3034, rfl⟩
abbrev main_v1965 : Ref sig .tc := ⟨.hbm, 3035, rfl⟩
abbrev main_v1966 : Ref sig .tc := ⟨.hbm, 3036, rfl⟩
abbrev main_v1967 : Ref sig .tc := ⟨.hbm, 3037, rfl⟩
abbrev main_v1968 : Ref sig .tc := ⟨.hbm, 3038, rfl⟩
abbrev main_v1969 : Ref sig .tc := ⟨.hbm, 3039, rfl⟩
abbrev main_v1970 : Ref sig .tc := ⟨.hbm, 3040, rfl⟩
abbrev main_v1971 : Ref sig .tc := ⟨.hbm, 3041, rfl⟩
abbrev main_cst_416 : Ref sig .tc := ⟨.hbm, 3042, rfl⟩
abbrev main_v1972 : Ref sig .tc := ⟨.hbm, 3043, rfl⟩
abbrev main_v1973 : Ref sig .tc := ⟨.hbm, 3044, rfl⟩
abbrev main_v1974 : Ref sig .tc := ⟨.hbm, 3045, rfl⟩
abbrev main_v1975 : Ref sig .tc := ⟨.hbm, 3046, rfl⟩
abbrev main_v1976 : Ref sig .tc := ⟨.hbm, 3047, rfl⟩
abbrev main_v1977 : Ref sig .tc := ⟨.hbm, 3048, rfl⟩
abbrev main_v1978 : Ref sig .tc := ⟨.hbm, 3049, rfl⟩
abbrev main_v1979 : Ref sig .tc := ⟨.hbm, 3050, rfl⟩
abbrev main_v1980 : Ref sig .tc := ⟨.hbm, 3051, rfl⟩
abbrev main_cst_417 : Ref sig .tc := ⟨.hbm, 3052, rfl⟩
abbrev main_v1981 : Ref sig .tc := ⟨.hbm, 3053, rfl⟩
abbrev main_v1982 : Ref sig .tc := ⟨.hbm, 3054, rfl⟩
abbrev main_v1983 : Ref sig .tc := ⟨.hbm, 3055, rfl⟩
abbrev main_v1984 : Ref sig .tc := ⟨.hbm, 3056, rfl⟩
abbrev main_v1985 : Ref sig .tc := ⟨.hbm, 3057, rfl⟩
abbrev main_v1986 : Ref sig .tc := ⟨.hbm, 3058, rfl⟩
abbrev main_v1987 : Ref sig .tc := ⟨.hbm, 3059, rfl⟩
abbrev main_v1988 : Ref sig .tc := ⟨.hbm, 3060, rfl⟩
abbrev main_v1989 : Ref sig .tc := ⟨.hbm, 3061, rfl⟩
abbrev main_v1990 : Ref sig .tc := ⟨.hbm, 3062, rfl⟩
abbrev main_v1991 : Ref sig .tc := ⟨.hbm, 3063, rfl⟩
abbrev main_v1992 : Ref sig .tc := ⟨.hbm, 3064, rfl⟩
abbrev main_c_418 : Ref sig .tc := ⟨.hbm, 3065, rfl⟩
abbrev main_v1993 : Ref sig .tc := ⟨.hbm, 3066, rfl⟩
abbrev main_v1994 : Ref sig .tc := ⟨.hbm, 3067, rfl⟩
abbrev main_v1995 : Ref sig .tc := ⟨.hbm, 3068, rfl⟩
abbrev main_v1996 : Ref sig .tc := ⟨.hbm, 3069, rfl⟩
abbrev main_cst_419 : Ref sig .tc := ⟨.hbm, 3070, rfl⟩
abbrev main_v1997 : Ref sig .tc := ⟨.hbm, 3071, rfl⟩
abbrev main_v1998 : Ref sig .tc := ⟨.hbm, 3072, rfl⟩
abbrev main_cst_420 : Ref sig .tc := ⟨.hbm, 3073, rfl⟩
abbrev main_v1999 : Ref sig .tc := ⟨.hbm, 3074, rfl⟩
abbrev main_v2000 : Ref sig .tc := ⟨.hbm, 3075, rfl⟩
abbrev main_cst_421 : Ref sig .tc := ⟨.hbm, 3076, rfl⟩
abbrev main_call94_v0 : Ref sig .tc := ⟨.hbm, 3077, rfl⟩
abbrev main_call94_v1 : Ref sig .tc := ⟨.hbm, 3078, rfl⟩
abbrev main_v2001 : Ref sig .tc := ⟨.hbm, 3079, rfl⟩
abbrev main_v2002 : Ref sig .tc := ⟨.hbm, 3080, rfl⟩
abbrev main_v2003 : Ref sig .tc := ⟨.hbm, 3081, rfl⟩
abbrev main_v2004 : Ref sig .tc := ⟨.hbm, 3082, rfl⟩
abbrev main_cst_422 : Ref sig .tc := ⟨.hbm, 3083, rfl⟩
abbrev main_v2005 : Ref sig .tc := ⟨.hbm, 3084, rfl⟩
abbrev main_v2006 : Ref sig .tc := ⟨.hbm, 3085, rfl⟩
abbrev main_v2007 : Ref sig .tc := ⟨.hbm, 3086, rfl⟩
abbrev main_v2008 : Ref sig .tc := ⟨.hbm, 3087, rfl⟩
abbrev main_v2009 : Ref sig .tc := ⟨.hbm, 3088, rfl⟩
abbrev main_cst_423 : Ref sig .tc := ⟨.hbm, 3089, rfl⟩
abbrev main_v2010 : Ref sig .tc := ⟨.hbm, 3090, rfl⟩
abbrev main_v2011 : Ref sig .tc := ⟨.hbm, 3091, rfl⟩
abbrev main_v2012 : Ref sig .tc := ⟨.hbm, 3092, rfl⟩
abbrev main_v2013 : Ref sig .tc := ⟨.hbm, 3093, rfl⟩
abbrev main_cst_424 : Ref sig .tc := ⟨.hbm, 3094, rfl⟩
abbrev main_v2014 : Ref sig .tc := ⟨.hbm, 3095, rfl⟩
abbrev main_v2015 : Ref sig .tc := ⟨.hbm, 3096, rfl⟩
abbrev main_v2016 : Ref sig .tc := ⟨.hbm, 3097, rfl⟩
abbrev main_v2017 : Ref sig .tc := ⟨.hbm, 3098, rfl⟩
abbrev main_v2018 : Ref sig .tc := ⟨.hbm, 3099, rfl⟩
abbrev main_v2019 : Ref sig .tc := ⟨.hbm, 3100, rfl⟩
abbrev main_v2020 : Ref sig .tc := ⟨.hbm, 3101, rfl⟩
abbrev main_v2021 : Ref sig .tc := ⟨.hbm, 3102, rfl⟩
abbrev main_v2022 : Ref sig .tc := ⟨.hbm, 3103, rfl⟩
abbrev main_v2023 : Ref sig .tc := ⟨.hbm, 3104, rfl⟩
abbrev main_v2024 : Ref sig .tc := ⟨.hbm, 3105, rfl⟩
abbrev main_v2025 : Ref sig .tc := ⟨.hbm, 3106, rfl⟩
abbrev main_v2026 : Ref sig .tc := ⟨.hbm, 3107, rfl⟩
abbrev main_cst_425 : Ref sig .tc := ⟨.hbm, 3108, rfl⟩
abbrev main_call95_cst : Ref sig .tc := ⟨.hbm, 3109, rfl⟩
abbrev main_call95_v0 : Ref sig .tc := ⟨.hbm, 3110, rfl⟩
abbrev main_call95_v1 : Ref sig .tc := ⟨.hbm, 3111, rfl⟩
abbrev main_call95_v2 : Ref sig .tc := ⟨.hbm, 3112, rfl⟩
abbrev main_call95_v3 : Ref sig .tc := ⟨.hbm, 3113, rfl⟩
abbrev main_call95_v4 : Ref sig .tc := ⟨.hbm, 3114, rfl⟩
abbrev main_v2027 : Ref sig .tc := ⟨.hbm, 3115, rfl⟩
abbrev main_cst_426 : Ref sig .tc := ⟨.hbm, 3116, rfl⟩
abbrev main_v2028 : Ref sig .tc := ⟨.hbm, 3117, rfl⟩
abbrev main_v2029 : Ref sig .tc := ⟨.hbm, 3118, rfl⟩
abbrev main_v2030 : Ref sig .tc := ⟨.hbm, 3119, rfl⟩
abbrev main_cst_427 : Ref sig .tc := ⟨.hbm, 3120, rfl⟩
abbrev main_v2031 : Ref sig .tc := ⟨.hbm, 3121, rfl⟩
abbrev main_cst_428 : Ref sig .tc := ⟨.hbm, 3122, rfl⟩
abbrev main_v2032 : Ref sig .tc := ⟨.hbm, 3123, rfl⟩
abbrev main_v2033 : Ref sig .tc := ⟨.hbm, 3124, rfl⟩
abbrev main_v2034 : Ref sig .tc := ⟨.hbm, 3125, rfl⟩
abbrev main_v2035 : Ref sig .tc := ⟨.hbm, 3126, rfl⟩
abbrev main_cst_429 : Ref sig .tc := ⟨.hbm, 3127, rfl⟩
abbrev main_v2036 : Ref sig .tc := ⟨.hbm, 3128, rfl⟩
abbrev main_v2037 : Ref sig .tc := ⟨.hbm, 3129, rfl⟩
abbrev main_v2038 : Ref sig .tc := ⟨.hbm, 3130, rfl⟩
abbrev main_cst_430 : Ref sig .tc := ⟨.hbm, 3131, rfl⟩
abbrev main_v2039 : Ref sig .tc := ⟨.hbm, 3132, rfl⟩
abbrev main_v2040 : Ref sig .tc := ⟨.hbm, 3133, rfl⟩
abbrev main_v2041 : Ref sig .tc := ⟨.hbm, 3134, rfl⟩
abbrev main_v2042 : Ref sig .tc := ⟨.hbm, 3135, rfl⟩
abbrev main_cst_431 : Ref sig .tc := ⟨.hbm, 3136, rfl⟩
abbrev main_call96_v0 : Ref sig .tc := ⟨.hbm, 3137, rfl⟩
abbrev main_call96_v1 : Ref sig .tc := ⟨.hbm, 3138, rfl⟩
abbrev main_v2043 : Ref sig .tc := ⟨.hbm, 3139, rfl⟩
abbrev main_cst_432 : Ref sig .tc := ⟨.hbm, 3140, rfl⟩
abbrev main_v2044 : Ref sig .tc := ⟨.hbm, 3141, rfl⟩
abbrev main_cst_433 : Ref sig .tc := ⟨.hbm, 3142, rfl⟩
abbrev main_v2045 : Ref sig .tc := ⟨.hbm, 3143, rfl⟩
abbrev main_v2046 : Ref sig .tc := ⟨.hbm, 3144, rfl⟩
abbrev main_v2047 : Ref sig .tc := ⟨.hbm, 3145, rfl⟩
abbrev main_v2048 : Ref sig .tc := ⟨.hbm, 3146, rfl⟩
abbrev main_v2049 : Ref sig .tc := ⟨.hbm, 3147, rfl⟩
abbrev main_v2050 : Ref sig .tc := ⟨.hbm, 3148, rfl⟩
abbrev main_cst_434 : Ref sig .tc := ⟨.hbm, 3149, rfl⟩
abbrev main_v2051 : Ref sig .tc := ⟨.hbm, 3150, rfl⟩
abbrev main_v2052 : Ref sig .tc := ⟨.hbm, 3151, rfl⟩
abbrev main_v2053 : Ref sig .tc := ⟨.hbm, 3152, rfl⟩
abbrev main_v2054 : Ref sig .tc := ⟨.hbm, 3153, rfl⟩
abbrev main_v2055 : Ref sig .tc := ⟨.hbm, 3154, rfl⟩
abbrev main_v2056 : Ref sig .tc := ⟨.hbm, 3155, rfl⟩
abbrev main_call97_cst : Ref sig .tc := ⟨.hbm, 3156, rfl⟩
abbrev main_call97_v0 : Ref sig .tc := ⟨.hbm, 3157, rfl⟩
abbrev main_call97_v1 : Ref sig .tc := ⟨.hbm, 3158, rfl⟩
abbrev main_call97_cst_0 : Ref sig .tc := ⟨.hbm, 3159, rfl⟩
abbrev main_call97_v2 : Ref sig .tc := ⟨.hbm, 3160, rfl⟩
abbrev main_call97_v3 : Ref sig .tc := ⟨.hbm, 3161, rfl⟩
abbrev main_call97_cst_1 : Ref sig .tc := ⟨.hbm, 3162, rfl⟩
abbrev main_call97_call0_v0 : Ref sig .tc := ⟨.hbm, 3163, rfl⟩
abbrev main_call97_call0_v1 : Ref sig .tc := ⟨.hbm, 3164, rfl⟩
abbrev main_call97_v4 : Ref sig .tc := ⟨.hbm, 3165, rfl⟩
abbrev main_call97_v5 : Ref sig .tc := ⟨.hbm, 3166, rfl⟩
abbrev main_call97_cst_2 : Ref sig .tc := ⟨.hbm, 3167, rfl⟩
abbrev main_call97_v6 : Ref sig .tc := ⟨.hbm, 3168, rfl⟩
abbrev main_call97_v7 : Ref sig .tc := ⟨.hbm, 3169, rfl⟩
abbrev main_v2057 : Ref sig .tc := ⟨.hbm, 3170, rfl⟩
abbrev main_v2058 : Ref sig .tc := ⟨.hbm, 3171, rfl⟩
abbrev main_v2059 : Ref sig .tc := ⟨.hbm, 3172, rfl⟩
abbrev main_v2060 : Ref sig .tc := ⟨.hbm, 3173, rfl⟩
abbrev main_v2061 : Ref sig .tc := ⟨.hbm, 3174, rfl⟩
abbrev main_v2062 : Ref sig .tc := ⟨.hbm, 3175, rfl⟩
abbrev main_v2063 : Ref sig .tc := ⟨.hbm, 3176, rfl⟩
abbrev main_v2064 : Ref sig .tc := ⟨.hbm, 3177, rfl⟩
abbrev main_v2065 : Ref sig .tc := ⟨.hbm, 3178, rfl⟩
abbrev main_v2066 : Ref sig .tc := ⟨.hbm, 3179, rfl⟩
abbrev main_v2067 : Ref sig .tc := ⟨.hbm, 3180, rfl⟩
abbrev main_v2068 : Ref sig .tc := ⟨.hbm, 3181, rfl⟩
abbrev main_cst_435 : Ref sig .tc := ⟨.hbm, 3182, rfl⟩
abbrev main_call98_cst : Ref sig .tc := ⟨.hbm, 3183, rfl⟩
abbrev main_call98_v0 : Ref sig .tc := ⟨.hbm, 3184, rfl⟩
abbrev main_call98_v1 : Ref sig .tc := ⟨.hbm, 3185, rfl⟩
abbrev main_call98_v2 : Ref sig .tc := ⟨.hbm, 3186, rfl⟩
abbrev main_call98_v3 : Ref sig .tc := ⟨.hbm, 3187, rfl⟩
abbrev main_call98_v4 : Ref sig .tc := ⟨.hbm, 3188, rfl⟩
abbrev main_v2069 : Ref sig .tc := ⟨.hbm, 3189, rfl⟩
abbrev main_cst_436 : Ref sig .tc := ⟨.hbm, 3190, rfl⟩
abbrev main_v2070 : Ref sig .tc := ⟨.hbm, 3191, rfl⟩
abbrev main_v2071 : Ref sig .tc := ⟨.hbm, 3192, rfl⟩
abbrev main_v2072 : Ref sig .tc := ⟨.hbm, 3193, rfl⟩
abbrev main_cst_437 : Ref sig .tc := ⟨.hbm, 3194, rfl⟩
abbrev main_v2073 : Ref sig .tc := ⟨.hbm, 3195, rfl⟩
abbrev main_cst_438 : Ref sig .tc := ⟨.hbm, 3196, rfl⟩
abbrev main_v2074 : Ref sig .tc := ⟨.hbm, 3197, rfl⟩
abbrev main_v2075 : Ref sig .tc := ⟨.hbm, 3198, rfl⟩
abbrev main_v2076 : Ref sig .tc := ⟨.hbm, 3199, rfl⟩
abbrev main_v2077 : Ref sig .tc := ⟨.hbm, 3200, rfl⟩
abbrev main_cst_439 : Ref sig .tc := ⟨.hbm, 3201, rfl⟩
abbrev main_v2078 : Ref sig .tc := ⟨.hbm, 3202, rfl⟩
abbrev main_v2079 : Ref sig .tc := ⟨.hbm, 3203, rfl⟩
abbrev main_v2080 : Ref sig .tc := ⟨.hbm, 3204, rfl⟩
abbrev main_cst_440 : Ref sig .tc := ⟨.hbm, 3205, rfl⟩
abbrev main_v2081 : Ref sig .tc := ⟨.hbm, 3206, rfl⟩
abbrev main_v2082 : Ref sig .tc := ⟨.hbm, 3207, rfl⟩
abbrev main_v2083 : Ref sig .tc := ⟨.hbm, 3208, rfl⟩
abbrev main_v2084 : Ref sig .tc := ⟨.hbm, 3209, rfl⟩
abbrev main_cst_441 : Ref sig .tc := ⟨.hbm, 3210, rfl⟩
abbrev main_call99_v0 : Ref sig .tc := ⟨.hbm, 3211, rfl⟩
abbrev main_call99_v1 : Ref sig .tc := ⟨.hbm, 3212, rfl⟩
abbrev main_v2085 : Ref sig .tc := ⟨.hbm, 3213, rfl⟩
abbrev main_cst_442 : Ref sig .tc := ⟨.hbm, 3214, rfl⟩
abbrev main_v2086 : Ref sig .tc := ⟨.hbm, 3215, rfl⟩
abbrev main_cst_443 : Ref sig .tc := ⟨.hbm, 3216, rfl⟩
abbrev main_v2087 : Ref sig .tc := ⟨.hbm, 3217, rfl⟩
abbrev main_v2088 : Ref sig .tc := ⟨.hbm, 3218, rfl⟩
abbrev main_v2089 : Ref sig .tc := ⟨.hbm, 3219, rfl⟩
abbrev main_v2090 : Ref sig .tc := ⟨.hbm, 3220, rfl⟩
abbrev main_v2091 : Ref sig .tc := ⟨.hbm, 3221, rfl⟩
abbrev main_v2092 : Ref sig .tc := ⟨.hbm, 3222, rfl⟩
abbrev main_cst_444 : Ref sig .tc := ⟨.hbm, 3223, rfl⟩
abbrev main_v2093 : Ref sig .tc := ⟨.hbm, 3224, rfl⟩
abbrev main_v2094 : Ref sig .tc := ⟨.hbm, 3225, rfl⟩
abbrev main_v2095 : Ref sig .tc := ⟨.hbm, 3226, rfl⟩
abbrev main_v2096 : Ref sig .tc := ⟨.hbm, 3227, rfl⟩
abbrev main_v2097 : Ref sig .tc := ⟨.hbm, 3228, rfl⟩
abbrev main_v2098 : Ref sig .tc := ⟨.hbm, 3229, rfl⟩
abbrev main_call100_cst : Ref sig .tc := ⟨.hbm, 3230, rfl⟩
abbrev main_call100_v0 : Ref sig .tc := ⟨.hbm, 3231, rfl⟩
abbrev main_call100_v1 : Ref sig .tc := ⟨.hbm, 3232, rfl⟩
abbrev main_call100_cst_0 : Ref sig .tc := ⟨.hbm, 3233, rfl⟩
abbrev main_call100_v2 : Ref sig .tc := ⟨.hbm, 3234, rfl⟩
abbrev main_call100_v3 : Ref sig .tc := ⟨.hbm, 3235, rfl⟩
abbrev main_call100_cst_1 : Ref sig .tc := ⟨.hbm, 3236, rfl⟩
abbrev main_call100_call0_v0 : Ref sig .tc := ⟨.hbm, 3237, rfl⟩
abbrev main_call100_call0_v1 : Ref sig .tc := ⟨.hbm, 3238, rfl⟩
abbrev main_call100_v4 : Ref sig .tc := ⟨.hbm, 3239, rfl⟩
abbrev main_call100_v5 : Ref sig .tc := ⟨.hbm, 3240, rfl⟩
abbrev main_call100_cst_2 : Ref sig .tc := ⟨.hbm, 3241, rfl⟩
abbrev main_call100_v6 : Ref sig .tc := ⟨.hbm, 3242, rfl⟩
abbrev main_call100_v7 : Ref sig .tc := ⟨.hbm, 3243, rfl⟩
abbrev main_v2099 : Ref sig .tc := ⟨.hbm, 3244, rfl⟩
abbrev main_v2100 : Ref sig .tc := ⟨.hbm, 3245, rfl⟩
abbrev main_v2101 : Ref sig .tc := ⟨.hbm, 3246, rfl⟩
abbrev main_v2102 : Ref sig .tc := ⟨.hbm, 3247, rfl⟩
abbrev main_v2103 : Ref sig .tc := ⟨.hbm, 3248, rfl⟩
abbrev main_v2104 : Ref sig .tc := ⟨.hbm, 3249, rfl⟩
abbrev main_v2105 : Ref sig .tc := ⟨.hbm, 3250, rfl⟩
abbrev main_v2106 : Ref sig .tc := ⟨.hbm, 3251, rfl⟩
abbrev main_v2107 : Ref sig .tc := ⟨.hbm, 3252, rfl⟩
abbrev main_v2108 : Ref sig .tc := ⟨.hbm, 3253, rfl⟩
abbrev main_cst_445 : Ref sig .tc := ⟨.hbm, 3254, rfl⟩
abbrev main_v2109 : Ref sig .tc := ⟨.hbm, 3255, rfl⟩
abbrev main_v2110 : Ref sig .tc := ⟨.hbm, 3256, rfl⟩
abbrev main_cst_446 : Ref sig .tc := ⟨.hbm, 3257, rfl⟩
abbrev main_v2111 : Ref sig .tc := ⟨.hbm, 3258, rfl⟩
abbrev main_v2112 : Ref sig .tc := ⟨.hbm, 3259, rfl⟩
abbrev main_v2113 : Ref sig .tc := ⟨.hbm, 3260, rfl⟩
abbrev main_v2114 : Ref sig .tc := ⟨.hbm, 3261, rfl⟩
abbrev main_v2115 : Ref sig .tc := ⟨.hbm, 3262, rfl⟩
abbrev main_v2116 : Ref sig .tc := ⟨.hbm, 3263, rfl⟩
abbrev main_v2117 : Ref sig .tc := ⟨.hbm, 3264, rfl⟩
abbrev main_v2118 : Ref sig .tc := ⟨.hbm, 3265, rfl⟩
abbrev main_v2119 : Ref sig .tc := ⟨.hbm, 3266, rfl⟩
abbrev main_v2120 : Ref sig .tc := ⟨.hbm, 3267, rfl⟩
abbrev main_v2121 : Ref sig .tc := ⟨.hbm, 3268, rfl⟩
abbrev main_cst_447 : Ref sig .tc := ⟨.hbm, 3269, rfl⟩
abbrev main_v2122 : Ref sig .tc := ⟨.hbm, 3270, rfl⟩
abbrev main_v2123 : Ref sig .tc := ⟨.hbm, 3271, rfl⟩
abbrev main_cst_448 : Ref sig .tc := ⟨.hbm, 3272, rfl⟩
abbrev main_v2124 : Ref sig .tc := ⟨.hbm, 3273, rfl⟩
abbrev main_v2125 : Ref sig .tc := ⟨.hbm, 3274, rfl⟩
abbrev main_v2126 : Ref sig .tc := ⟨.hbm, 3275, rfl⟩
abbrev main_v2127 : Ref sig .tc := ⟨.hbm, 3276, rfl⟩
abbrev main_v2128 : Ref sig .tc := ⟨.hbm, 3277, rfl⟩
abbrev main_v2129 : Ref sig .tc := ⟨.hbm, 3278, rfl⟩
abbrev main_v2130 : Ref sig .tc := ⟨.hbm, 3279, rfl⟩
abbrev main_v2131 : Ref sig .tc := ⟨.hbm, 3280, rfl⟩
abbrev main_v2132 : Ref sig .tc := ⟨.hbm, 3281, rfl⟩
abbrev main_v2133 : Ref sig .tc := ⟨.hbm, 3282, rfl⟩
abbrev main_v2134 : Ref sig .tc := ⟨.hbm, 3283, rfl⟩
abbrev main_cst_449 : Ref sig .tc := ⟨.hbm, 3284, rfl⟩
abbrev main_v2135 : Ref sig .tc := ⟨.hbm, 3285, rfl⟩
abbrev main_v2136 : Ref sig .tc := ⟨.hbm, 3286, rfl⟩
abbrev main_v2137 : Ref sig .tc := ⟨.hbm, 3287, rfl⟩
abbrev main_v2138 : Ref sig .tc := ⟨.hbm, 3288, rfl⟩
abbrev main_v2139 : Ref sig .tc := ⟨.hbm, 3289, rfl⟩
abbrev main_v2140 : Ref sig .tc := ⟨.hbm, 3290, rfl⟩
abbrev main_v2141 : Ref sig .tc := ⟨.hbm, 3291, rfl⟩
abbrev main_v2142 : Ref sig .tc := ⟨.hbm, 3292, rfl⟩
abbrev main_v2143 : Ref sig .tc := ⟨.hbm, 3293, rfl⟩
abbrev main_cst_450 : Ref sig .tc := ⟨.hbm, 3294, rfl⟩
abbrev main_v2144 : Ref sig .tc := ⟨.hbm, 3295, rfl⟩
abbrev main_v2145 : Ref sig .tc := ⟨.hbm, 3296, rfl⟩
abbrev main_v2146 : Ref sig .tc := ⟨.hbm, 3297, rfl⟩
abbrev main_v2147 : Ref sig .tc := ⟨.hbm, 3298, rfl⟩
abbrev main_v2148 : Ref sig .tc := ⟨.hbm, 3299, rfl⟩
abbrev main_v2149 : Ref sig .tc := ⟨.hbm, 3300, rfl⟩
abbrev main_v2150 : Ref sig .tc := ⟨.hbm, 3301, rfl⟩
abbrev main_v2151 : Ref sig .tc := ⟨.hbm, 3302, rfl⟩
abbrev main_v2152 : Ref sig .tc := ⟨.hbm, 3303, rfl⟩
abbrev main_v2153 : Ref sig .tc := ⟨.hbm, 3304, rfl⟩
abbrev main_v2154 : Ref sig .tc := ⟨.hbm, 3305, rfl⟩
abbrev main_v2155 : Ref sig .tc := ⟨.hbm, 3306, rfl⟩
abbrev main_c_451 : Ref sig .tc := ⟨.hbm, 3307, rfl⟩
abbrev main_v2156 : Ref sig .tc := ⟨.hbm, 3308, rfl⟩
abbrev main_v2157 : Ref sig .tc := ⟨.hbm, 3309, rfl⟩
abbrev main_v2158 : Ref sig .tc := ⟨.hbm, 3310, rfl⟩
abbrev main_v2159 : Ref sig .tc := ⟨.hbm, 3311, rfl⟩
abbrev main_cst_452 : Ref sig .tc := ⟨.hbm, 3312, rfl⟩
abbrev main_v2160 : Ref sig .tc := ⟨.hbm, 3313, rfl⟩
abbrev main_v2161 : Ref sig .tc := ⟨.hbm, 3314, rfl⟩
abbrev main_cst_453 : Ref sig .tc := ⟨.hbm, 3315, rfl⟩
abbrev main_v2162 : Ref sig .tc := ⟨.hbm, 3316, rfl⟩
abbrev main_v2163 : Ref sig .tc := ⟨.hbm, 3317, rfl⟩
abbrev main_cst_454 : Ref sig .tc := ⟨.hbm, 3318, rfl⟩
abbrev main_call101_v0 : Ref sig .tc := ⟨.hbm, 3319, rfl⟩
abbrev main_call101_v1 : Ref sig .tc := ⟨.hbm, 3320, rfl⟩
abbrev main_v2164 : Ref sig .tc := ⟨.hbm, 3321, rfl⟩
abbrev main_v2165 : Ref sig .tc := ⟨.hbm, 3322, rfl⟩
abbrev main_v2166 : Ref sig .tc := ⟨.hbm, 3323, rfl⟩
abbrev main_v2167 : Ref sig .tc := ⟨.hbm, 3324, rfl⟩
abbrev main_cst_455 : Ref sig .tc := ⟨.hbm, 3325, rfl⟩
abbrev main_v2168 : Ref sig .tc := ⟨.hbm, 3326, rfl⟩
abbrev main_v2169 : Ref sig .tc := ⟨.hbm, 3327, rfl⟩
abbrev main_v2170 : Ref sig .tc := ⟨.hbm, 3328, rfl⟩
abbrev main_v2171 : Ref sig .tc := ⟨.hbm, 3329, rfl⟩
abbrev main_v2172 : Ref sig .tc := ⟨.hbm, 3330, rfl⟩
abbrev main_cst_456 : Ref sig .tc := ⟨.hbm, 3331, rfl⟩
abbrev main_v2173 : Ref sig .tc := ⟨.hbm, 3332, rfl⟩
abbrev main_v2174 : Ref sig .tc := ⟨.hbm, 3333, rfl⟩
abbrev main_v2175 : Ref sig .tc := ⟨.hbm, 3334, rfl⟩
abbrev main_v2176 : Ref sig .tc := ⟨.hbm, 3335, rfl⟩
abbrev main_cst_457 : Ref sig .tc := ⟨.hbm, 3336, rfl⟩
abbrev main_v2177 : Ref sig .tc := ⟨.hbm, 3337, rfl⟩
abbrev main_v2178 : Ref sig .tc := ⟨.hbm, 3338, rfl⟩
abbrev main_v2179 : Ref sig .tc := ⟨.hbm, 3339, rfl⟩
abbrev main_v2180 : Ref sig .tc := ⟨.hbm, 3340, rfl⟩
abbrev main_v2181 : Ref sig .tc := ⟨.hbm, 3341, rfl⟩
abbrev main_v2182 : Ref sig .tc := ⟨.hbm, 3342, rfl⟩
abbrev main_v2183 : Ref sig .tc := ⟨.hbm, 3343, rfl⟩
abbrev main_v2184 : Ref sig .tc := ⟨.hbm, 3344, rfl⟩
abbrev main_v2185 : Ref sig .tc := ⟨.hbm, 3345, rfl⟩
abbrev main_v2186 : Ref sig .tc := ⟨.hbm, 3346, rfl⟩
abbrev main_v2187 : Ref sig .tc := ⟨.hbm, 3347, rfl⟩
abbrev main_v2188 : Ref sig .tc := ⟨.hbm, 3348, rfl⟩
abbrev main_v2189 : Ref sig .tc := ⟨.hbm, 3349, rfl⟩
abbrev main_cst_458 : Ref sig .tc := ⟨.hbm, 3350, rfl⟩
abbrev main_call102_cst : Ref sig .tc := ⟨.hbm, 3351, rfl⟩
abbrev main_call102_v0 : Ref sig .tc := ⟨.hbm, 3352, rfl⟩
abbrev main_call102_v1 : Ref sig .tc := ⟨.hbm, 3353, rfl⟩
abbrev main_call102_v2 : Ref sig .tc := ⟨.hbm, 3354, rfl⟩
abbrev main_call102_v3 : Ref sig .tc := ⟨.hbm, 3355, rfl⟩
abbrev main_call102_v4 : Ref sig .tc := ⟨.hbm, 3356, rfl⟩
abbrev main_v2190 : Ref sig .tc := ⟨.hbm, 3357, rfl⟩
abbrev main_cst_459 : Ref sig .tc := ⟨.hbm, 3358, rfl⟩
abbrev main_v2191 : Ref sig .tc := ⟨.hbm, 3359, rfl⟩
abbrev main_v2192 : Ref sig .tc := ⟨.hbm, 3360, rfl⟩
abbrev main_v2193 : Ref sig .tc := ⟨.hbm, 3361, rfl⟩
abbrev main_cst_460 : Ref sig .tc := ⟨.hbm, 3362, rfl⟩
abbrev main_v2194 : Ref sig .tc := ⟨.hbm, 3363, rfl⟩
abbrev main_cst_461 : Ref sig .tc := ⟨.hbm, 3364, rfl⟩
abbrev main_v2195 : Ref sig .tc := ⟨.hbm, 3365, rfl⟩
abbrev main_v2196 : Ref sig .tc := ⟨.hbm, 3366, rfl⟩
abbrev main_v2197 : Ref sig .tc := ⟨.hbm, 3367, rfl⟩
abbrev main_v2198 : Ref sig .tc := ⟨.hbm, 3368, rfl⟩
abbrev main_cst_462 : Ref sig .tc := ⟨.hbm, 3369, rfl⟩
abbrev main_v2199 : Ref sig .tc := ⟨.hbm, 3370, rfl⟩
abbrev main_v2200 : Ref sig .tc := ⟨.hbm, 3371, rfl⟩
abbrev main_v2201 : Ref sig .tc := ⟨.hbm, 3372, rfl⟩
abbrev main_cst_463 : Ref sig .tc := ⟨.hbm, 3373, rfl⟩
abbrev main_v2202 : Ref sig .tc := ⟨.hbm, 3374, rfl⟩
abbrev main_v2203 : Ref sig .tc := ⟨.hbm, 3375, rfl⟩
abbrev main_v2204 : Ref sig .tc := ⟨.hbm, 3376, rfl⟩
abbrev main_v2205 : Ref sig .tc := ⟨.hbm, 3377, rfl⟩
abbrev main_cst_464 : Ref sig .tc := ⟨.hbm, 3378, rfl⟩
abbrev main_call103_v0 : Ref sig .tc := ⟨.hbm, 3379, rfl⟩
abbrev main_call103_v1 : Ref sig .tc := ⟨.hbm, 3380, rfl⟩
abbrev main_v2206 : Ref sig .tc := ⟨.hbm, 3381, rfl⟩
abbrev main_cst_465 : Ref sig .tc := ⟨.hbm, 3382, rfl⟩
abbrev main_v2207 : Ref sig .tc := ⟨.hbm, 3383, rfl⟩
abbrev main_cst_466 : Ref sig .tc := ⟨.hbm, 3384, rfl⟩
abbrev main_v2208 : Ref sig .tc := ⟨.hbm, 3385, rfl⟩
abbrev main_v2209 : Ref sig .tc := ⟨.hbm, 3386, rfl⟩
abbrev main_v2210 : Ref sig .tc := ⟨.hbm, 3387, rfl⟩
abbrev main_v2211 : Ref sig .tc := ⟨.hbm, 3388, rfl⟩
abbrev main_v2212 : Ref sig .tc := ⟨.hbm, 3389, rfl⟩
abbrev main_v2213 : Ref sig .tc := ⟨.hbm, 3390, rfl⟩
abbrev main_cst_467 : Ref sig .tc := ⟨.hbm, 3391, rfl⟩
abbrev main_v2214 : Ref sig .tc := ⟨.hbm, 3392, rfl⟩
abbrev main_v2215 : Ref sig .tc := ⟨.hbm, 3393, rfl⟩
abbrev main_v2216 : Ref sig .tc := ⟨.hbm, 3394, rfl⟩
abbrev main_v2217 : Ref sig .tc := ⟨.hbm, 3395, rfl⟩
abbrev main_v2218 : Ref sig .tc := ⟨.hbm, 3396, rfl⟩
abbrev main_v2219 : Ref sig .tc := ⟨.hbm, 3397, rfl⟩
abbrev main_call104_cst : Ref sig .tc := ⟨.hbm, 3398, rfl⟩
abbrev main_call104_v0 : Ref sig .tc := ⟨.hbm, 3399, rfl⟩
abbrev main_call104_v1 : Ref sig .tc := ⟨.hbm, 3400, rfl⟩
abbrev main_call104_cst_0 : Ref sig .tc := ⟨.hbm, 3401, rfl⟩
abbrev main_call104_v2 : Ref sig .tc := ⟨.hbm, 3402, rfl⟩
abbrev main_call104_v3 : Ref sig .tc := ⟨.hbm, 3403, rfl⟩
abbrev main_call104_cst_1 : Ref sig .tc := ⟨.hbm, 3404, rfl⟩
abbrev main_call104_call0_v0 : Ref sig .tc := ⟨.hbm, 3405, rfl⟩
abbrev main_call104_call0_v1 : Ref sig .tc := ⟨.hbm, 3406, rfl⟩
abbrev main_call104_v4 : Ref sig .tc := ⟨.hbm, 3407, rfl⟩
abbrev main_call104_v5 : Ref sig .tc := ⟨.hbm, 3408, rfl⟩
abbrev main_call104_cst_2 : Ref sig .tc := ⟨.hbm, 3409, rfl⟩
abbrev main_call104_v6 : Ref sig .tc := ⟨.hbm, 3410, rfl⟩
abbrev main_call104_v7 : Ref sig .tc := ⟨.hbm, 3411, rfl⟩
abbrev main_v2220 : Ref sig .tc := ⟨.hbm, 3412, rfl⟩
abbrev main_v2221 : Ref sig .tc := ⟨.hbm, 3413, rfl⟩
abbrev main_v2222 : Ref sig .tc := ⟨.hbm, 3414, rfl⟩
abbrev main_v2223 : Ref sig .tc := ⟨.hbm, 3415, rfl⟩
abbrev main_v2224 : Ref sig .tc := ⟨.hbm, 3416, rfl⟩
abbrev main_v2225 : Ref sig .tc := ⟨.hbm, 3417, rfl⟩
abbrev main_v2226 : Ref sig .tc := ⟨.hbm, 3418, rfl⟩
abbrev main_v2227 : Ref sig .tc := ⟨.hbm, 3419, rfl⟩
abbrev main_v2228 : Ref sig .tc := ⟨.hbm, 3420, rfl⟩
abbrev main_v2229 : Ref sig .tc := ⟨.hbm, 3421, rfl⟩
abbrev main_v2230 : Ref sig .tc := ⟨.hbm, 3422, rfl⟩
abbrev main_v2231 : Ref sig .tc := ⟨.hbm, 3423, rfl⟩
abbrev main_cst_468 : Ref sig .tc := ⟨.hbm, 3424, rfl⟩
abbrev main_call105_cst : Ref sig .tc := ⟨.hbm, 3425, rfl⟩
abbrev main_call105_v0 : Ref sig .tc := ⟨.hbm, 3426, rfl⟩
abbrev main_call105_v1 : Ref sig .tc := ⟨.hbm, 3427, rfl⟩
abbrev main_call105_v2 : Ref sig .tc := ⟨.hbm, 3428, rfl⟩
abbrev main_call105_v3 : Ref sig .tc := ⟨.hbm, 3429, rfl⟩
abbrev main_call105_v4 : Ref sig .tc := ⟨.hbm, 3430, rfl⟩
abbrev main_v2232 : Ref sig .tc := ⟨.hbm, 3431, rfl⟩
abbrev main_cst_469 : Ref sig .tc := ⟨.hbm, 3432, rfl⟩
abbrev main_v2233 : Ref sig .tc := ⟨.hbm, 3433, rfl⟩
abbrev main_v2234 : Ref sig .tc := ⟨.hbm, 3434, rfl⟩
abbrev main_v2235 : Ref sig .tc := ⟨.hbm, 3435, rfl⟩
abbrev main_cst_470 : Ref sig .tc := ⟨.hbm, 3436, rfl⟩
abbrev main_v2236 : Ref sig .tc := ⟨.hbm, 3437, rfl⟩
abbrev main_cst_471 : Ref sig .tc := ⟨.hbm, 3438, rfl⟩
abbrev main_v2237 : Ref sig .tc := ⟨.hbm, 3439, rfl⟩
abbrev main_v2238 : Ref sig .tc := ⟨.hbm, 3440, rfl⟩
abbrev main_v2239 : Ref sig .tc := ⟨.hbm, 3441, rfl⟩
abbrev main_v2240 : Ref sig .tc := ⟨.hbm, 3442, rfl⟩
abbrev main_cst_472 : Ref sig .tc := ⟨.hbm, 3443, rfl⟩
abbrev main_v2241 : Ref sig .tc := ⟨.hbm, 3444, rfl⟩
abbrev main_v2242 : Ref sig .tc := ⟨.hbm, 3445, rfl⟩
abbrev main_v2243 : Ref sig .tc := ⟨.hbm, 3446, rfl⟩
abbrev main_cst_473 : Ref sig .tc := ⟨.hbm, 3447, rfl⟩
abbrev main_v2244 : Ref sig .tc := ⟨.hbm, 3448, rfl⟩
abbrev main_v2245 : Ref sig .tc := ⟨.hbm, 3449, rfl⟩
abbrev main_v2246 : Ref sig .tc := ⟨.hbm, 3450, rfl⟩
abbrev main_v2247 : Ref sig .tc := ⟨.hbm, 3451, rfl⟩
abbrev main_cst_474 : Ref sig .tc := ⟨.hbm, 3452, rfl⟩
abbrev main_call106_v0 : Ref sig .tc := ⟨.hbm, 3453, rfl⟩
abbrev main_call106_v1 : Ref sig .tc := ⟨.hbm, 3454, rfl⟩
abbrev main_v2248 : Ref sig .tc := ⟨.hbm, 3455, rfl⟩
abbrev main_cst_475 : Ref sig .tc := ⟨.hbm, 3456, rfl⟩
abbrev main_v2249 : Ref sig .tc := ⟨.hbm, 3457, rfl⟩
abbrev main_cst_476 : Ref sig .tc := ⟨.hbm, 3458, rfl⟩
abbrev main_v2250 : Ref sig .tc := ⟨.hbm, 3459, rfl⟩
abbrev main_v2251 : Ref sig .tc := ⟨.hbm, 3460, rfl⟩
abbrev main_v2252 : Ref sig .tc := ⟨.hbm, 3461, rfl⟩
abbrev main_v2253 : Ref sig .tc := ⟨.hbm, 3462, rfl⟩
abbrev main_v2254 : Ref sig .tc := ⟨.hbm, 3463, rfl⟩
abbrev main_v2255 : Ref sig .tc := ⟨.hbm, 3464, rfl⟩
abbrev main_cst_477 : Ref sig .tc := ⟨.hbm, 3465, rfl⟩
abbrev main_v2256 : Ref sig .tc := ⟨.hbm, 3466, rfl⟩
abbrev main_v2257 : Ref sig .tc := ⟨.hbm, 3467, rfl⟩
abbrev main_v2258 : Ref sig .tc := ⟨.hbm, 3468, rfl⟩
abbrev main_v2259 : Ref sig .tc := ⟨.hbm, 3469, rfl⟩
abbrev main_v2260 : Ref sig .tc := ⟨.hbm, 3470, rfl⟩
abbrev main_v2261 : Ref sig .tc := ⟨.hbm, 3471, rfl⟩
abbrev main_call107_cst : Ref sig .tc := ⟨.hbm, 3472, rfl⟩
abbrev main_call107_v0 : Ref sig .tc := ⟨.hbm, 3473, rfl⟩
abbrev main_call107_v1 : Ref sig .tc := ⟨.hbm, 3474, rfl⟩
abbrev main_call107_cst_0 : Ref sig .tc := ⟨.hbm, 3475, rfl⟩
abbrev main_call107_v2 : Ref sig .tc := ⟨.hbm, 3476, rfl⟩
abbrev main_call107_v3 : Ref sig .tc := ⟨.hbm, 3477, rfl⟩
abbrev main_call107_cst_1 : Ref sig .tc := ⟨.hbm, 3478, rfl⟩
abbrev main_call107_call0_v0 : Ref sig .tc := ⟨.hbm, 3479, rfl⟩
abbrev main_call107_call0_v1 : Ref sig .tc := ⟨.hbm, 3480, rfl⟩
abbrev main_call107_v4 : Ref sig .tc := ⟨.hbm, 3481, rfl⟩
abbrev main_call107_v5 : Ref sig .tc := ⟨.hbm, 3482, rfl⟩
abbrev main_call107_cst_2 : Ref sig .tc := ⟨.hbm, 3483, rfl⟩
abbrev main_call107_v6 : Ref sig .tc := ⟨.hbm, 3484, rfl⟩
abbrev main_call107_v7 : Ref sig .tc := ⟨.hbm, 3485, rfl⟩
abbrev main_v2262 : Ref sig .tc := ⟨.hbm, 3486, rfl⟩

abbrev nD : Nat := 1
abbrev τ : Topo := Topo.v7x

variable {F : FTy → Type} [FloatOps F]

class Facts₀ : Prop where
  shapeCasts_S6144x1x16x16_S3x2048x256 : S6144x1x16x16.ShapeCasts S3x2048x256
  slices_S3x2048x256_S1x2048x256_0_0_0 : S3x2048x256.Slices ![0, 0, 0] S1x2048x256
  shapeCasts_S1x2048x256_S2048x256 : S1x2048x256.ShapeCasts S2048x256
  reducesTo_S2048x256_S2048_d1 : S2048x256.ReducesTo [1] S2048
  h_S_ : 0 < S_.numel
  bcast_S2048_S2048x1_0 : S2048.BroadcastsInDim S2048x1 (![0] : Fin 1 → Fin S2048x1.rank)
  bcast_S2048_S1x2048_1 : S2048.BroadcastsInDim S1x2048 (![1] : Fin 1 → Fin S1x2048.rank)
  bcast_S2048x1_S2048x2048_0_1 : S2048x1.BroadcastsInDim S2048x2048 (![0, 1] : Fin 2 → Fin S2048x2048.rank)
  bcast_S1x2048_S2048x2048_0_1 : S1x2048.BroadcastsInDim S2048x2048 (![0, 1] : Fin 2 → Fin S2048x2048.rank)
  transposes_S2048x256_S256x2048_1_0 : S2048x256.Transposes [1, 0] S256x2048
  bcast_S_S2048x2048 : S_.BroadcastsInDim S2048x2048 (![] : Fin 0 → Fin S2048x2048.rank)
  reducesTo_S2048x2048_S_d0_1 : S2048x2048.ReducesTo [0, 1] S_
  transposes_S2048x2048_S2048x2048_1_0 : S2048x2048.Transposes [1, 0] S2048x2048
  reducesTo_S2048x2048_S2048_d1 : S2048x2048.ReducesTo [1] S2048
  bcast_S_S2048 : S_.BroadcastsInDim S2048 (![] : Fin 0 → Fin S2048.rank)
  reducesTo_S2048x2048_S2048_d0 : S2048x2048.ReducesTo [0] S2048
  bcast_S2048x1_S2048x256_0_1 : S2048x1.BroadcastsInDim S2048x256 (![0, 1] : Fin 2 → Fin S2048x256.rank)
  slices_S3x2048x256_S1x2048x256_1_0_0 : S3x2048x256.Slices ![1, 0, 0] S1x2048x256
  slices_S3x2048x256_S1x2048x256_2_0_0 : S3x2048x256.Slices ![2, 0, 0] S1x2048x256
  slices_S3x16x16_S1x16x16_0_0_0 : S3x16x16.Slices ![0, 0, 0] S1x16x16
  shapeCasts_S1x16x16_S16x16 : S1x16x16.ShapeCasts S16x16
  bcast_S_S16x8 : S_.BroadcastsInDim S16x8 (![] : Fin 0 → Fin S16x8.rank)
  slices_S3x16x16_S1x16x16_1_0_0 : S3x16x16.Slices ![1, 0, 0] S1x16x16
  slices_S3x16x16_S1x16x16_2_0_0 : S3x16x16.Slices ![2, 0, 0] S1x16x16
  slices_S16x8_S16x1_0_0 : S16x8.Slices ![0, 0] S16x1
  slices_S16x8_S16x1_0_4 : S16x8.Slices ![0, 4] S16x1
  slices_S4x256x8_S1x256x8_0_0_0 : S4x256x8.Slices ![0, 0, 0] S1x256x8
  shapeCasts_S1x256x8_S256x8 : S1x256x8.ShapeCasts S256x8
  slices_S16x1_S8x1_0_0 : S16x1.Slices ![0, 0] S8x1
  slices_S16x1_S8x1_8_0 : S16x1.Slices ![8, 0] S8x1
  transposes_S2048x1_S1x2048_1_0 : S2048x1.Transposes [1, 0] S1x2048
  reducesTo_S2048x1_S_d0_1 : S2048x1.ReducesTo [0, 1] S_
  bcast_S_S2048x1 : S_.BroadcastsInDim S2048x1 (![] : Fin 0 → Fin S2048x1.rank)
  bcast_S_S2048x8 : S_.BroadcastsInDim S2048x8 (![] : Fin 0 → Fin S2048x8.rank)
  slices_S16x8_S16x1_0_1 : S16x8.Slices ![0, 1] S16x1
  slices_S16x8_S16x1_0_5 : S16x8.Slices ![0, 5] S16x1
  slices_S4x256x8_S1x256x8_1_0_0 : S4x256x8.Slices ![1, 0, 0] S1x256x8
  slices_S16x8_S16x1_0_2 : S16x8.Slices ![0, 2] S16x1
  slices_S16x8_S16x1_0_6 : S16x8.Slices ![0, 6] S16x1
  slices_S4x256x8_S1x256x8_2_0_0 : S4x256x8.Slices ![2, 0, 0] S1x256x8
  slices_S16x8_S16x1_0_3 : S16x8.Slices ![0, 3] S16x1
  slices_S16x8_S16x1_0_7 : S16x8.Slices ![0, 7] S16x1
  slices_S4x256x8_S1x256x8_3_0_0 : S4x256x8.Slices ![3, 0, 0] S1x256x8
  concatenates_S2048x8_S2048x8_S2048x8_S2048x8_S2048x32_d1 : Shape.Concatenates [S2048x8, S2048x8, S2048x8, S2048x8] S2048x32 1
  transposes_S256x32_S32x256_1_0 : S256x32.Transposes [1, 0] S32x256
  bcast_S256_S1x256_1 : S256.BroadcastsInDim S1x256 (![1] : Fin 1 → Fin S1x256.rank)
  bcast_S1x256_S2048x256_0_1 : S1x256.BroadcastsInDim S2048x256 (![0, 1] : Fin 2 → Fin S2048x256.rank)
  bcast_S_S2048x256 : S_.BroadcastsInDim S2048x256 (![] : Fin 0 → Fin S2048x256.rank)
  bcast_S_S16x2 : S_.BroadcastsInDim S16x2 (![] : Fin 0 → Fin S16x2.rank)
  slices_S16x2_S16x1_0_0 : S16x2.Slices ![0, 0] S16x1
  slices_S16x2_S16x1_0_1 : S16x2.Slices ![0, 1] S16x1
  dot_S2048x256_S256x2048_S2048x2048_1_0_0_1_n_n_wf : DotDims.WF S2048x256 S256x2048 S2048x2048 [1] [0] [0] [1] [] []
  dot_S2048x2048_S2048x2048_S2048x2048_1_0_0_1_n_n_wf : DotDims.WF S2048x2048 S2048x2048 S2048x2048 [1] [0] [0] [1] [] []
  dot_S2048x2048_S2048x256_S2048x256_1_0_0_1_n_n_wf : DotDims.WF S2048x2048 S2048x256 S2048x256 [1] [0] [0] [1] [] []
  dot_S2048x256_S256x256_S2048x256_1_0_0_1_n_n_wf : DotDims.WF S2048x256 S256x256 S2048x256 [1] [0] [0] [1] [] []
  dot_S16x16_S16x8_S16x8_1_0_0_1_n_n_wf : DotDims.WF S16x16 S16x8 S16x8 [1] [0] [0] [1] [] []
  dot_S2048x256_S256x8_S2048x8_1_0_0_1_n_n_wf : DotDims.WF S2048x256 S256x8 S2048x8 [1] [0] [0] [1] [] []
  dot_S2048x8_S8x1_S2048x1_1_0_0_1_n_n_wf : DotDims.WF S2048x8 S8x1 S2048x1 [1] [0] [0] [1] [] []
  dot_S2048x2048_S2048x8_S2048x8_1_0_0_1_n_n_wf : DotDims.WF S2048x2048 S2048x8 S2048x8 [1] [0] [0] [1] [] []
  dot_S2048x32_S32x256_S2048x256_1_0_0_1_n_n_wf : DotDims.WF S2048x32 S32x256 S2048x256 [1] [0] [0] [1] [] []
  dot_S16x16_S16x2_S16x2_1_0_0_1_n_n_wf : DotDims.WF S16x16 S16x2 S16x2 [1] [0] [0] [1] [] []

variable [Facts₀]

def dot_S2048x256_S256x2048_S2048x2048_1_0_0_1_n_n : DotDims S2048x256 S256x2048 S2048x2048 where
  lhsContracting := [1]
  rhsContracting := [0]
  lhsNonContracting := [0]
  rhsNonContracting := [1]
  lhsBatch := []
  rhsBatch := []
  wf := dot_S2048x256_S256x2048_S2048x2048_1_0_0_1_n_n_wf
def dot_S2048x2048_S2048x2048_S2048x2048_1_0_0_1_n_n : DotDims S2048x2048 S2048x2048 S2048x2048 where
  lhsContracting := [1]
  rhsContracting := [0]
  lhsNonContracting := [0]
  rhsNonContracting := [1]
  lhsBatch := []
  rhsBatch := []
  wf := dot_S2048x2048_S2048x2048_S2048x2048_1_0_0_1_n_n_wf
def dot_S2048x2048_S2048x256_S2048x256_1_0_0_1_n_n : DotDims S2048x2048 S2048x256 S2048x256 where
  lhsContracting := [1]
  rhsContracting := [0]
  lhsNonContracting := [0]
  rhsNonContracting := [1]
  lhsBatch := []
  rhsBatch := []
  wf := dot_S2048x2048_S2048x256_S2048x256_1_0_0_1_n_n_wf
def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def dot_S16x16_S16x8_S16x8_1_0_0_1_n_n : DotDims S16x16 S16x8 S16x8 where
  lhsContracting := [1]
  rhsContracting := [0]
  lhsNonContracting := [0]
  rhsNonContracting := [1]
  lhsBatch := []
  rhsBatch := []
  wf := dot_S16x16_S16x8_S16x8_1_0_0_1_n_n_wf
def dot_S2048x256_S256x8_S2048x8_1_0_0_1_n_n : DotDims S2048x256 S256x8 S2048x8 where
  lhsContracting := [1]
  rhsContracting := [0]
  lhsNonContracting := [0]
  rhsNonContracting := [1]
  lhsBatch := []
  rhsBatch := []
  wf := dot_S2048x256_S256x8_S2048x8_1_0_0_1_n_n_wf
def dot_S2048x8_S8x1_S2048x1_1_0_0_1_n_n : DotDims S2048x8 S8x1 S2048x1 where
  lhsContracting := [1]
  rhsContracting := [0]
  lhsNonContracting := [0]
  rhsNonContracting := [1]
  lhsBatch := []
  rhsBatch := []
  wf := dot_S2048x8_S8x1_S2048x1_1_0_0_1_n_n_wf
def dot_S2048x2048_S2048x8_S2048x8_1_0_0_1_n_n : DotDims S2048x2048 S2048x8 S2048x8 where
  lhsContracting := [1]
  rhsContracting := [0]
  lhsNonContracting := [0]
  rhsNonContracting := [1]
  lhsBatch := []
  rhsBatch := []
  wf := dot_S2048x2048_S2048x8_S2048x8_1_0_0_1_n_n_wf
def dot_S2048x32_S32x256_S2048x256_1_0_0_1_n_n : DotDims S2048x32 S32x256 S2048x256 where
  lhsContracting := [1]
  rhsContracting := [0]
  lhsNonContracting := [0]
  rhsNonContracting := [1]
  lhsBatch := []
  rhsBatch := []
  wf := dot_S2048x32_S32x256_S2048x256_1_0_0_1_n_n_wf
def dot_S16x16_S16x2_S16x2_1_0_0_1_n_n : DotDims S16x16 S16x2 S16x2 where
  lhsContracting := [1]
  rhsContracting := [0]
  lhsNonContracting := [0]
  rhsNonContracting := [1]
  lhsBatch := []
  rhsBatch := []
  wf := dot_S16x16_S16x2_S16x2_1_0_0_1_n_n_wf

class Facts : Prop extends Facts₀ where

variable [Facts]
-- ==== Proof.LibRegionSeg.lean ====
/-
  A kernel region of a several-region program as one segment of the segment kit, for a pipeline whose body keeps the
  class invariant: the scoped buffers no window stages and the generator register pass through the body untouched,
  the core owes nothing at any point, the kernel has no semaphore of its own and no prefetched table.

  The thread state between segments is "every unscoped buffer of the TensorCore held whole at a valuation, the
  generator register at some state, nothing owed". A region is entered from that state at a valuation W and left in
  it at a valuation W'. What the certificate supplies about the arrays is two entailments:
    split — the unscoped buffers at W yield the proof data's per-window points-tos at the entry contents, beside the
            unscoped buffers that are no window's array;
    join  — the per-window points-tos at the contents the write-backs leave, beside those other buffers, are the
            unscoped buffers at W'.
  For windows on pairwise distinct arrays both are the library's (the arrays split out of the unscoped buffers and
  put back); for input windows that read ONE array they are proved by dealing that array's full share among the
  windows and collecting it again. Everything else a segment record asks is discharged here once.
-/
import Idealize.ShloMosaic.Lib.Pipeline.RegionsLoop
import Idealize.ShloMosaic.Lib.Pipeline.FrameSuffix

noncomputable section

namespace Idealize.ShloMosaic

open Idealize.SL
open Idealize.SL.BI (sProp bigSep)
open scoped Idealize.SL.BI
open Idealize.SL.BI.BIBase Idealize.SL.BI.Laws Idealize.SL.Sem Idealize.SL.ProofMode
open Idealize.SL.RA
open TcCoe

set_option Elab.async false

variable {nD : Nat} {τ : Topo} {sig : RefSig} {Val : EltTy → Type}

namespace Pipeline

open Idealize.ShloMosaic.Rounds

section ClassASeg

variable {Λ₀ : SL.Sem.Labels} {P : Type} [Fintype P] {U : Type} [URA U]

local notation "𝕄" => MT nD τ sig Unit Val ℕ U ℕ

variable (pcs : P → PCfg sig Λ₀ Val) (a : (p : P) → (pcs p).Adm)
  (pdats : (p : P) → (c : Dev nD) → Dat τ Val Unit ℕ U ℕ (pin pcs a p) c)
  (defs₀ : Defs nD τ sig Val Λ₀) (𝒱₀ : Variants)
  (L : GSem nD τ sig → Finset Unit) (lv : GSem nD τ sig → Unit → ℕ)

/-- What rides beside the buffers through every segment: the generator register at some state, and the core owing
    nothing. -/
abbrev besideBufs (c : Dev nD) : sProp 𝕄 :=
  iprop((∃ r, prngReg c r) ∗ ∃ W, owes (c.tc : Thread nD τ) (0 : CellTallies nD τ sig Unit) W)

/-- A valuation of the device's buffers read at the TensorCore's references. -/
abbrev tcVals (c : Dev nD) (W : Valuation τ sig Val) : (b : Ref sig .tc) → Buf Val ((c.tc : Thread nD τ).loc b) :=
  fun b => W b

set_option backward.isDefEq.respectTransparency.types false in
/-- THE SEGMENT of a class-invariant region: entered from every unscoped buffer at W c, left at W' c. -/
def RegionSeg.ofClassInv (p : P) (hw : WinFacts₀ (pcs p).spec)
    (hbp : ∀ w : Fin (pin pcs a p).W, 0 < ((pin pcs a p).spec w).block.numel)
    (hsw : ∀ (w : Fin (pin pcs a p).W) (s : Fin ((pin pcs a p).spec w).nbuf), (((pin pcs a p).spec w).stage s).IsWhole)
    (hbody : ∀ c, BodyObligationLoose (pdats p c) defs₀ 𝒱₀ () Set.univ)
    (hΦ : ∀ c t, (pdats p c).Φ t = ΦA (pin pcs a p).spec c)
    (howed : ∀ c t, (pdats p c).owed t = 0)
    (hrec : ∀ c t, (pdats p c).recorded t = Set.univ)
    (hpref : ∀ c, (BI.emp : sProp 𝕄) ⊢ prefHeld (pcs p).pre c (fun _ => fullShare) (a p).1)
    (W W' : Dev nD → Valuation τ sig Val)
    (hsplit : ∀ c, (StableHlo.held (c.tc : Thread nD τ) (ucRefs τ sig) (W c) : sProp 𝕄)
      ⊢ iprop((pdats p c).arrays ((pdats p c).arrAt · 0) ∗ unscopedRest (pin pcs a p).spec c (tcVals c (W c))))
    (hjoin : ∀ c, iprop((pdats p c).arrays ((pdats p c).arrAt · (pin pcs a p).N) ∗ unscopedRest (pin pcs a p).spec c (tcVals c (W c)))
      ⊢ (StableHlo.held (c.tc : Thread nD τ) (ucRefs τ sig) (W' c) : sProp 𝕄)) :
    RegionSeg pcs a pdats () defs₀ 𝒱₀ L lv p where
  win := hw
  block_pos := hbp
  stage_whole := hsw
  K := PEmpty
  osem k := k.elim
  ho := OwnSemFacts.none _
  hbody := hbody
  hwaits := hwaits_of_owed_zero pcs a pdats () L lv p howed
  pre c := iprop(StableHlo.held (c.tc : Thread nD τ) (ucRefs τ sig) (W c) ∗ besideBufs c)
  post c := iprop(StableHlo.held (c.tc : Thread nD τ) (ucRefs τ sig) (W' c) ∗ besideBufs c)
  X c := iprop(∃ r, prngReg c r)
  Y c := iprop(∃ r, prngReg c r)
  Z c := unscopedRest (Ix := Unit) (Name := ℕ) (U := U) (Lvl := ℕ) (pin pcs a p).spec c (tcVals c (W c))
  hentry c := by
    rw [ownSems0_none]
    have hs := hsplit c
    have hp := hpref c
    iintro ⟨⟨Hub, Hp, HO⟩, -, -⟩
    ihave H := hs $$ Hub
    icases H with ⟨Ha, Hrest⟩
    imodintro
    isplitl [Ha]; · iexact Ha
    isplitr; · iapply hp; iempintro
    isplitl [HO]
    · unfold Dat.owesAt owesWithin
      icases HO with ⟨%Wo, HO⟩; iexists Wo; isplitr
      · ipureintro; unfold Dat.bound; rw [hrec c 0]; exact fun _ _ => Or.inl trivial
      rw [howed c 0]; iexact HO
    isplitl [Hp]; · iexact Hp
    iexact Hrest
  hin c := by
    rw [hΦ c 0]; unfold ΦA
    iintro ⟨Hp, -, Hr⟩
    isplitl [Hr]; · iexact Hr
    iexact Hp
  hout c := by
    rw [ownSems0_none, hΦ c (Fin.last _)]; unfold ΦA
    iintro ⟨Hr, Hp⟩
    isplitl [Hp]; · iexact Hp
    isplitr; · iempintro
    iexact Hr
  hexit c := by
    have hj := hjoin c
    iintro ⟨Ha, HO, HY, Hrest⟩
    imodintro
    isplitl [Ha Hrest]
    · iapply hj; isplitl [Ha] <;> iassumption
    isplitl [HY]; · iexact HY
    unfold Dat.owesAt owesWithin
    rw [howed c (Fin.last _)]
    icases HO with ⟨%Wo, -, HO⟩; iexists Wo; iexact HO

/-- The valuation a region with pairwise distinct arrays leaves: the windows' arrays at what the write-backs leave,
    every other buffer as the region found it. -/
abbrev leftBy (p : P) (c : Dev nD) (W : Valuation τ sig Val) : Valuation τ sig Val :=
  withArrays (pin pcs a p).spec c W fun w => (pdats p c).arrAt w (pin pcs a p).N

set_option backward.isDefEq.respectTransparency.types false in
/-- The segment of a class-invariant region whose windows sit on PAIRWISE DISTINCT arrays, each held at the full share:
    the arrays are split out of the unscoped buffers at entry and put back, at what the write-backs leave, at exit. -/
def RegionSeg.ofClassInvDistinct (p : P) (hw : WinFacts (pin pcs a p).spec)
    (harr : ∀ w, ((pin pcs a p).spec w).arr.IsWhole)
    (hbp : ∀ w : Fin (pin pcs a p).W, 0 < ((pin pcs a p).spec w).block.numel)
    (hsw : ∀ (w : Fin (pin pcs a p).W) (s : Fin ((pin pcs a p).spec w).nbuf), (((pin pcs a p).spec w).stage s).IsWhole)
    (hbody : ∀ c, BodyObligationLoose (pdats p c) defs₀ 𝒱₀ () Set.univ)
    (hΦ : ∀ c t, (pdats p c).Φ t = ΦA (pin pcs a p).spec c)
    (howed : ∀ c t, (pdats p c).owed t = 0)
    (hrec : ∀ c t, (pdats p c).recorded t = Set.univ)
    (hpref : ∀ c, (BI.emp : sProp 𝕄) ⊢ prefHeld (pcs p).pre c (fun _ => fullShare) (a p).1)
    (hshare : ∀ c w, (pdats p c).share w = fullShare)
    (W : Dev nD → Valuation τ sig Val)
    (hA : ∀ c w, (pdats p c).A w = W c (arrRef (pin pcs a p).spec w)) :
    RegionSeg pcs a pdats () defs₀ 𝒱₀ L lv p :=
  RegionSeg.ofClassInv pcs a pdats defs₀ 𝒱₀ L lv p hw.to₀ hbp hsw hbody hΦ howed hrec hpref W
    (fun c => leftBy pcs a pdats p c (W c))
    (fun c => by
      have h := arrays_of_unscopedBufs (p := p) pcs a pdats hw harr c (hshare c) (tcVals c (W c)) (hA c)
      rw [unscopedBufs_held] at h
      exact h)
    (fun c => by
      have h := unscopedBufs_of_arrays (p := p) pcs a hw harr c pdats (hshare c) (tcVals c (W c))
        (tcVals c (leftBy pcs a pdats p c (W c))) ((pdats p c).arrAt · (pin pcs a p).N)
        (fun w => (withArrays_arr (pin pcs a p).spec hw.arr_inj c (W c) (fun w => (pdats p c).arrAt w (pin pcs a p).N) w).symm)
        (fun b hb => withArrays_of_ne (pin pcs a p).spec c (W c) (fun w => (pdats p c).arrAt w (pin pcs a p).N) b fun w e => hb (Finset.mem_image.mpr ⟨w, Finset.mem_univ _, e⟩))
      rw [unscopedBufs_held] at h
      exact h)

/-! ## Host stretches between regions

A long host block is a list of stretches (the printed text cut at calls and window ends). Each stretch comes with
its decided side conditions: its operations name TensorCore buffers only, allocate nothing, and write only
references satisfying a predicate keep (so that a reference NOT satisfying it — an argument of the program — is
spared by the whole list). The stretches are folded into host segments, each entered from what the one before
left, and the valuation after them is the fold of their operations. -/

/-- A stretch of host operations with its side conditions; keep says which references it may write. -/
structure HostStretch (τ : Topo) (sig : RefSig) (Val : EltTy → Type) (keep : Ref sig .tc → Prop) where
  ops : List (HloOp τ sig Val)
  sub : ops.Forall fun op => op.bufs ⊆ StableHlo.tcRefs τ sig
  fresh : ops.Forall fun op => op.fresh = ∅
  spares : ops.Forall fun op => ∀ b ∈ op.writes, ∃ y : Ref sig .tc, Proc.devRef (τ := τ) .tc y = b ∧ keep y

variable {keep : Ref sig .tc → Prop}

/-- The buffers' contents after a list of stretches. -/
def afterStretches : List (HostStretch τ sig Val keep) → Valuation τ sig Val → Valuation τ sig Val
  | [], V => V
  | s :: l, V => afterStretches l (StableHlo.after s.ops V)

/-- A reference no stretch may write keeps its contents through the list. -/
theorem afterStretches_spared {r : Ref sig .tc} (hr : ¬ keep r) :
    ∀ (l : List (HostStretch τ sig Val keep)) (V : Valuation τ sig Val),
      afterStretches l V (Proc.devRef .tc r) = V (Proc.devRef .tc r)
  | [], _ => rfl
  | s :: l, V => by
    rw [afterStretches, afterStretches_spared hr l]
    exact StableHlo.after_of_forall_not_mem s.ops V fun op hop hb => by
      obtain ⟨y, he, hy⟩ := (List.forall_iff_forall_mem.mp s.spares) op hop _ hb
      exact hr (Proc.devRef_injective _ he ▸ hy)

/-- The stretches as host segments over the unscoped buffers, from the valuation W. -/
def hostSegs : List (HostStretch τ sig Val keep) → (Dev nD → Valuation τ sig Val) → List (Seg pcs a pdats () defs₀ 𝒱₀ L lv)
  | [], _ => []
  | s :: l, W =>
    .host (HostSeg.ofOps (Name := ℕ) (U := U) pcs defs₀ 𝒱₀ L lv (ucRefs τ sig) s.ops
        (fun op h => sub_ucRefs op ((List.forall_iff_forall_mem.mp s.sub) op h))
        (fun op h => (List.forall_iff_forall_mem.mp s.fresh) op h) W (besideBufs (U := U)))
      :: hostSegs l (fun c => StableHlo.after s.ops (W c))

/-- The stretches' segments chain from the unscoped buffers at W to the unscoped buffers after the stretches; what
    follows them chains on from there. -/
theorem chains_hostSegs : ∀ (l : List (HostStretch τ sig Val keep)) (W : Dev nD → Valuation τ sig Val)
    (rest : List (Seg pcs a pdats () defs₀ 𝒱₀ L lv)) (T' : Dev nD → sProp 𝕄),
    Seg.Chains (fun c => iprop(StableHlo.held (c.tc : Thread nD τ) (ucRefs τ sig) (afterStretches l (W c)) ∗ besideBufs (U := U) c)) rest T' →
    Seg.Chains (fun c => iprop(StableHlo.held (c.tc : Thread nD τ) (ucRefs τ sig) (W c) ∗ besideBufs (U := U) c))
      (hostSegs pcs a pdats defs₀ 𝒱₀ L lv l W ++ rest) T'
  | [], _, _, _, h => h
  | s :: l, W, rest, T', h =>
    ⟨fun _ => .rfl, chains_hostSegs l (fun c => StableHlo.after s.ops (W c)) rest T' h⟩

/-- Host segments enter no pipeline. -/
theorem pipes_hostSegs : ∀ (l : List (HostStretch τ sig Val keep)) (W : Dev nD → Valuation τ sig Val)
    (rest : List (Seg pcs a pdats () defs₀ 𝒱₀ L lv)),
    Seg.pipes (hostSegs pcs a pdats defs₀ 𝒱₀ L lv l W ++ rest) = Seg.pipes rest
  | [], _, _ => rfl
  | s :: l, W, rest => by
    show Seg.pipes (Seg.host _ :: (hostSegs pcs a pdats defs₀ 𝒱₀ L lv l _ ++ rest)) = _
    rw [Seg.pipes_host]; exact pipes_hostSegs l _ rest

/-- A region with pairwise distinct arrays leaves every buffer that is no OUTPUT window's array as it found it. -/
theorem leftBy_spared (p : P) (hinj : Function.Injective (arrRef (pin pcs a p).spec)) (c : Dev nD)
    (W : Valuation τ sig Val) (hA : ∀ w, (pdats p c).A w = W (arrRef (pin pcs a p).spec w)) (r : Ref sig .tc)
    (hr : ∀ w, ((pin pcs a p).win w).isOut = true → arrRef (pin pcs a p).spec w ≠ r) :
    leftBy pcs a pdats p c W (Proc.devRef .tc r) = W (Proc.devRef .tc r) := by
  by_cases h : ∃ w, arrRef (pin pcs a p).spec w = r
  · obtain ⟨w, rfl⟩ := h
    have hin : ((pin pcs a p).win w).isOut = false := by
      cases ho : ((pin pcs a p).win w).isOut with
      | false => rfl
      | true => exact absurd rfl (hr w ho)
    rw [leftBy, withArrays_arr (pin pcs a p).spec hinj c W _ w, (pdats p c).arrAt_in w hin, hA]
  · exact withArrays_of_ne (pin pcs a p).spec c W _ r fun w e => h ⟨w, e⟩

/-- What a region's write-backs leave, read at a buffer that is no OUTPUT window's array: what the region found there
    (an input array is never written; a buffer that is no window's array is bypassed). For any configuration whose
    arrays are pairwise distinct and any proof data whose entry contents are read off the valuation. -/
theorem withArrays_arrAt_spared {cfg : Cfg sig Λ₀} {c : Dev nD} (dat : Dat τ Val Unit ℕ U ℕ cfg c)
    (hinj : Function.Injective (arrRef cfg.spec)) (W : Valuation τ sig Val)
    (hA : ∀ w, dat.A w = W (arrRef cfg.spec w)) (r : Ref sig .tc)
    (hr : ∀ w, (cfg.win w).isOut = true → arrRef cfg.spec w ≠ r) :
    withArrays cfg.spec c W (fun w => dat.arrAt w cfg.N) (Proc.devRef .tc r) = W (Proc.devRef .tc r) := by
  by_cases h : ∃ w, arrRef cfg.spec w = r
  · obtain ⟨w, rfl⟩ := h
    have hin : (cfg.win w).isOut = false := by
      cases ho : (cfg.win w).isOut with
      | false => rfl
      | true => exact absurd rfl (hr w ho)
    rw [withArrays_arr cfg.spec hinj c W _ w, dat.arrAt_in w hin, hA]
  · exact withArrays_of_ne cfg.spec c W _ r fun w e => h ⟨w, e⟩

end ClassASeg

end Pipeline

end Idealize.ShloMosaic
-- ==== Proof.K.Stretches.lean ====
/- The host stretches of the program's @main, one record each (its operations name TensorCore buffers only, allocate
   nothing, and write no argument array), grouped into the ten lists that lie before, between and after the nine kernel
   regions. The rows follow the item list of the generated main_chain; written by: bun scratch/stretches.js Kernel K -/
import proofs.«146970_j35948876268088_1_alg».proof.Proof.K.LaunchB2
import proofs.«146970_j35948876268088_1_alg».proof.Proof.LibRegionSeg

set_option maxRecDepth 16384

noncomputable section

namespace Cert.Kernel.Hand

open Idealize.ShloMosaic Idealize.ShloMosaic.TcCoe Idealize.SL.Sem
open Cert.Kernel Cert.Kernel.Gen Cert.Kernel.GenP

variable {F : FTy → Type} [FloatOps F]

/-- The references a host operation may write: every TensorCore reference but the twelve argument arrays, which are
    the first twelve buffers of HBM. -/
def notArg (y : Ref sig .tc) : Prop := y.space ≠ .hbm ∨ 12 ≤ y.idx.val

instance : DecidablePred notArg := fun y => inferInstanceAs (Decidable (y.space ≠ .hbm ∨ 12 ≤ y.idx.val))

/-- No operation of a listed stretch allocates: each conjunct is an equation between literals. -/
macro "host_fresh" : tactic => `(tactic| (simp only [List.Forall]; repeat' constructor))

/-- Each operation of a listed stretch writes one buffer, named by a reference that is no argument: the writes of
    every kind of operation are a singleton, and the reference's space and index are literals. -/
macro "host_spares" : tactic => `(tactic| (
  simp only [List.Forall, StableHlo.nullary_writes, StableHlo.unary_writes, StableHlo.binary_writes, StableHlo.ternary_writes,
    StableHlo.quaternary_writes, StableHlo.reshape_writes, StableHlo.binaryIndexed_writes, StableHlo.unaryIndexed_writes,
    StableHlo.nary_writes, Finset.mem_singleton, forall_eq]
  repeat' apply And.intro
  all_goals exact ⟨_, rfl, by decide⟩))

abbrev HS (F : FTy → Type) [FloatOps F] := Pipeline.HostStretch τ sig (Elt F) notArg

def s0 : HS F := ⟨hostOps0, hostOps0_sub, by host_fresh, by host_spares⟩
def s1 : HS F := ⟨hostOps1, hostOps1_sub, by host_fresh, by host_spares⟩
def s2 : HS F := ⟨hostOps2, hostOps2_sub, by host_fresh, by host_spares⟩
def s3 : HS F := ⟨hostOps3, hostOps3_sub, by host_fresh, by host_spares⟩
def s4 : HS F := ⟨hostOps4, hostOps4_sub, by host_fresh, by host_spares⟩
def s5 : HS F := ⟨hostOps5, hostOps5_sub, by host_fresh, by host_spares⟩
def s6 : HS F := ⟨hostOps6, hostOps6_sub, by host_fresh, by host_spares⟩
def s6_1 : HS F := ⟨hostOps6_1, hostOps6_1_sub, by host_fresh, by host_spares⟩
def s6_2 : HS F := ⟨hostOps6_2, hostOps6_2_sub, by host_fresh, by host_spares⟩
def s7 : HS F := ⟨hostOps7, hostOps7_sub, by host_fresh, by host_spares⟩
def s7_1 : HS F := ⟨hostOps7_1, hostOps7_1_sub, by host_fresh, by host_spares⟩
def s7_2 : HS F := ⟨hostOps7_2, hostOps7_2_sub, by host_fresh, by host_spares⟩
def s7_3 : HS F := ⟨hostOps7_3, hostOps7_3_sub, by host_fresh, by host_spares⟩
def s7_4 : HS F := ⟨hostOps7_4, hostOps7_4_sub, by host_fresh, by host_spares⟩
def s7_5 : HS F := ⟨hostOps7_5, hostOps7_5_sub, by host_fresh, by host_spares⟩
def s7_6 : HS F := ⟨hostOps7_6, hostOps7_6_sub, by host_fresh, by host_spares⟩
def s7_7 : HS F := ⟨hostOps7_7, hostOps7_7_sub, by host_fresh, by host_spares⟩
def s7_8 : HS F := ⟨hostOps7_8, hostOps7_8_sub, by host_fresh, by host_spares⟩
def s7_9 : HS F := ⟨hostOps7_9, hostOps7_9_sub, by host_fresh, by host_spares⟩
def s7_10 : HS F := ⟨hostOps7_10, hostOps7_10_sub, by host_fresh, by host_spares⟩
def s7_11 : HS F := ⟨hostOps7_11, hostOps7_11_sub, by host_fresh, by host_spares⟩
def s7_12 : HS F := ⟨hostOps7_12, hostOps7_12_sub, by host_fresh, by host_spares⟩
def s7_13 : HS F := ⟨hostOps7_13, hostOps7_13_sub, by host_fresh, by host_spares⟩
def s7_14 : HS F := ⟨hostOps7_14, hostOps7_14_sub, by host_fresh, by host_spares⟩
def s7_15 : HS F := ⟨hostOps7_15, hostOps7_15_sub, by host_fresh, by host_spares⟩
def s7_16 : HS F := ⟨hostOps7_16, hostOps7_16_sub, by host_fresh, by host_spares⟩
def s7_17 : HS F := ⟨hostOps7_17, hostOps7_17_sub, by host_fresh, by host_spares⟩
def s7_18 : HS F := ⟨hostOps7_18, hostOps7_18_sub, by host_fresh, by host_spares⟩
def s7_19 : HS F := ⟨hostOps7_19, hostOps7_19_sub, by host_fresh, by host_spares⟩
def s7_20 : HS F := ⟨hostOps7_20, hostOps7_20_sub, by host_fresh, by host_spares⟩
def s7_21 : HS F := ⟨hostOps7_21, hostOps7_21_sub, by host_fresh, by host_spares⟩
def s7_22 : HS F := ⟨hostOps7_22, hostOps7_22_sub, by host_fresh, by host_spares⟩
def s7_23 : HS F := ⟨hostOps7_23, hostOps7_23_sub, by host_fresh, by host_spares⟩
def s7_24 : HS F := ⟨hostOps7_24, hostOps7_24_sub, by host_fresh, by host_spares⟩
def s7_25 : HS F := ⟨hostOps7_25, hostOps7_25_sub, by host_fresh, by host_spares⟩
def s7_26 : HS F := ⟨hostOps7_26, hostOps7_26_sub, by host_fresh, by host_spares⟩
def s7_27 : HS F := ⟨hostOps7_27, hostOps7_27_sub, by host_fresh, by host_spares⟩
def s7_28 : HS F := ⟨hostOps7_28, hostOps7_28_sub, by host_fresh, by host_spares⟩
def s7_29 : HS F := ⟨hostOps7_29, hostOps7_29_sub, by host_fresh, by host_spares⟩
def s7_30 : HS F := ⟨hostOps7_30, hostOps7_30_sub, by host_fresh, by host_spares⟩
def s7_31 : HS F := ⟨hostOps7_31, hostOps7_31_sub, by host_fresh, by host_spares⟩
def s7_32 : HS F := ⟨hostOps7_32, hostOps7_32_sub, by host_fresh, by host_spares⟩
def s7_33 : HS F := ⟨hostOps7_33, hostOps7_33_sub, by host_fresh, by host_spares⟩
def s7_34 : HS F := ⟨hostOps7_34, hostOps7_34_sub, by host_fresh, by host_spares⟩
def s7_35 : HS F := ⟨hostOps7_35, hostOps7_35_sub, by host_fresh, by host_spares⟩
def s7_36 : HS F := ⟨hostOps7_36, hostOps7_36_sub, by host_fresh, by host_spares⟩
def s7_37 : HS F := ⟨hostOps7_37, hostOps7_37_sub, by host_fresh, by host_spares⟩
def s7_38 : HS F := ⟨hostOps7_38, hostOps7_38_sub, by host_fresh, by host_spares⟩
def s7_39 : HS F := ⟨hostOps7_39, hostOps7_39_sub, by host_fresh, by host_spares⟩
def s7_40 : HS F := ⟨hostOps7_40, hostOps7_40_sub, by host_fresh, by host_spares⟩
def s7_41 : HS F := ⟨hostOps7_41, hostOps7_41_sub, by host_fresh, by host_spares⟩
def s7_42 : HS F := ⟨hostOps7_42, hostOps7_42_sub, by host_fresh, by host_spares⟩
def s7_43 : HS F := ⟨hostOps7_43, hostOps7_43_sub, by host_fresh, by host_spares⟩
def s7_44 : HS F := ⟨hostOps7_44, hostOps7_44_sub, by host_fresh, by host_spares⟩
def s7_45 : HS F := ⟨hostOps7_45, hostOps7_45_sub, by host_fresh, by host_spares⟩
def s7_46 : HS F := ⟨hostOps7_46, hostOps7_46_sub, by host_fresh, by host_spares⟩
def s7_47 : HS F := ⟨hostOps7_47, hostOps7_47_sub, by host_fresh, by host_spares⟩
def s7_48 : HS F := ⟨hostOps7_48, hostOps7_48_sub, by host_fresh, by host_spares⟩
def s7_49 : HS F := ⟨hostOps7_49, hostOps7_49_sub, by host_fresh, by host_spares⟩
def s7_50 : HS F := ⟨hostOps7_50, hostOps7_50_sub, by host_fresh, by host_spares⟩
def s8 : HS F := ⟨hostOps8, hostOps8_sub, by host_fresh, by host_spares⟩
def s8_1 : HS F := ⟨hostOps8_1, hostOps8_1_sub, by host_fresh, by host_spares⟩
def s8_2 : HS F := ⟨hostOps8_2, hostOps8_2_sub, by host_fresh, by host_spares⟩
def s9 : HS F := ⟨hostOps9, hostOps9_sub, by host_fresh, by host_spares⟩
def s9_1 : HS F := ⟨hostOps9_1, hostOps9_1_sub, by host_fresh, by host_spares⟩
def s9_2 : HS F := ⟨hostOps9_2, hostOps9_2_sub, by host_fresh, by host_spares⟩
def s9_3 : HS F := ⟨hostOps9_3, hostOps9_3_sub, by host_fresh, by host_spares⟩
def s9_4 : HS F := ⟨hostOps9_4, hostOps9_4_sub, by host_fresh, by host_spares⟩
def s9_5 : HS F := ⟨hostOps9_5, hostOps9_5_sub, by host_fresh, by host_spares⟩
def s9_6 : HS F := ⟨hostOps9_6, hostOps9_6_sub, by host_fresh, by host_spares⟩
def s9_7 : HS F := ⟨hostOps9_7, hostOps9_7_sub, by host_fresh, by host_spares⟩
def s9_8 : HS F := ⟨hostOps9_8, hostOps9_8_sub, by host_fresh, by host_spares⟩
def s9_9 : HS F := ⟨hostOps9_9, hostOps9_9_sub, by host_fresh, by host_spares⟩
def s9_10 : HS F := ⟨hostOps9_10, hostOps9_10_sub, by host_fresh, by host_spares⟩
def s9_11 : HS F := ⟨hostOps9_11, hostOps9_11_sub, by host_fresh, by host_spares⟩

/-- The stretches before region 0. -/
def st0 : List (HS F) := [s0]
/-- The stretches between regions 0 and 1. -/
def st1 : List (HS F) := [s1]
/-- The stretches between regions 1 and 2. -/
def st2 : List (HS F) := [s2]
/-- The stretches between regions 2 and 3. -/
def st3 : List (HS F) := [s3]
/-- The stretches between regions 3 and 4. -/
def st4 : List (HS F) := [s4]
/-- The stretches between regions 4 and 5. -/
def st5 : List (HS F) := [s5]
/-- The stretches between regions 5 and 6. -/
def st6 : List (HS F) := [s6, s6_1, s6_2]
/-- The stretches between regions 6 and 7. -/
def st7 : List (HS F) := [s7, s7_1, s7_2, s7_3, s7_4, s7_5, s7_6, s7_7, s7_8, s7_9, s7_10, s7_11, s7_12, s7_13, s7_14, s7_15, s7_16, s7_17, s7_18, s7_19, s7_20, s7_21, s7_22, s7_23, s7_24, s7_25, s7_26, s7_27, s7_28, s7_29, s7_30, s7_31, s7_32, s7_33, s7_34, s7_35, s7_36, s7_37, s7_38, s7_39, s7_40, s7_41, s7_42, s7_43, s7_44, s7_45, s7_46, s7_47, s7_48, s7_49, s7_50]
/-- The stretches between regions 7 and 8. -/
def st8 : List (HS F) := [s8, s8_1, s8_2]
/-- The stretches after region 8. -/
def st9 : List (HS F) := [s9, s9_1, s9_2, s9_3, s9_4, s9_5, s9_6, s9_7, s9_8, s9_9, s9_10, s9_11]

end Cert.Kernel.Hand

end
-- ==== Proof.K.Shared.lean ====
/- The regions whose two input windows read ONE array (edge·edge, H·H): how the thread state's unscoped buffers yield
   the region's per-window points-tos at entry, and are recovered from them at exit. The array's full share is dealt
   to the two input windows as its left and right halves and collected again at exit; the output window's array is
   held whole throughout and ends at what the write-backs leave. Stated for ANY proof data of the region's
   configuration whose input shares are those halves and whose entry contents are read off the valuation. -/
import proofs.«146970_j35948876268088_1_alg».proof.Proof.K.LaunchA
import proofs.«146970_j35948876268088_1_alg».proof.Proof.LibRegionSeg

set_option maxRecDepth 16384

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window)
open Cert.Kernel Cert.Kernel.Gen Cert.Kernel.GenP

variable {F : FTy → Type} [FloatOps F]

local notation "𝕄" => MT nD τ sig Unit (Elt F) ℕ (UR sig nD τ) ℕ

/-! ## Region 1: both input windows read main_v20; the output window writes main_v21 -/

/-- The two buffers behind region 1's three windows. -/
theorem arrImage1 : Finset.univ.image (Pipeline.arrRef spec1) = ({main_v20, main_v21} : Finset (Ref sig .tc)) := by decide

set_option maxHeartbeats 40000000 in
/-- ENTRY. The unscoped buffers at W yield the region's points-tos: the shared input array's full share is dealt to the
    two input windows (left half, right half), the output array goes to its window whole. -/
theorem split1 (c : Dev nD) (dat : Dat τ (Elt F) Unit ℕ (UR sig nD τ) ℕ cfg1 c)
    (hq0 : dat.q 0 = fullShare.left) (hq1 : dat.q 1 = fullShare.right)
    (W : Valuation τ sig (Elt F)) (hA : ∀ w, dat.A w = W (Pipeline.arrRef spec1 w)) :
    (StableHlo.held (c : Thread nD τ) (Pipeline.ucRefs τ sig) W : sProp 𝕄)
      ⊢ iprop(dat.arrays (dat.arrAt · 0) ∗ Pipeline.unscopedRest spec1 c (Pipeline.tcVals c W)) := by
  rw [← Pipeline.unscopedBufs_held, Pipeline.unscopedBufs_split₀ cfgs 1 winFacts₀1.arr_unscoped c (Pipeline.tcVals c W)]
  refine sep_mono ?_ .rfl
  show (Pipeline.arrBufs spec1 c _ : sProp 𝕄) ⊢ _
  unfold Pipeline.arrBufs Dat.arrays
  rw [arrImage1, BI.bigSep_insert (by decide), BI.bigSep_singleton, bigSep_W1]
  have h0 : dat.arrAt 0 0 = W (Pipeline.arrRef spec1 0) := hA 0
  have h1 : dat.arrAt 1 0 = W (Pipeline.arrRef spec1 1) := hA 1
  have h2 : dat.arrAt 2 0 = W (Pipeline.arrRef spec1 2) := hA 2
  have hs0 : (cfg1.win 0).arr.view.set = Finset.univ := (arr_whole1 0).set_eq_univ
  have hs2 : (cfg1.win 2).arr.view.set = Finset.univ := (arr_whole1 2).set_eq_univ
  beta_reduce
  rw [h0, h1, h2, hs0, hs2,
    show dat.share 0 = fullShare.left from hq0, show dat.share 1 = fullShare.right from hq1,
    show dat.share 2 = fullShare from rfl]
  exact (sep_mono (pointsTo_share (PosShare.mem_left_op_right fullShare)).1 .rfl).trans sep_assoc

/-- The valuation region 1 leaves: its output array at what the write-backs leave, every other buffer as found. -/
abbrev left1 (c : Dev nD) (W : Valuation τ sig (Elt F)) (dat : Dat τ (Elt F) Unit ℕ (UR sig nD τ) ℕ cfg1 c) : Valuation τ sig (Elt F) :=
  Pipeline.withArrays (fun _ : Fin 1 => spec1 2) c W fun _ => dat.arrAt 2 cfg1.N

set_option maxHeartbeats 40000000 in
/-- EXIT. The region's points-tos at what the write-backs leave, beside the other unscoped buffers, are the unscoped
    buffers at the exit valuation: the two halves of the shared input array are collected again (an input array is
    never written), the output array holds the write-backs' result. -/
theorem join1 (c : Dev nD) (dat : Dat τ (Elt F) Unit ℕ (UR sig nD τ) ℕ cfg1 c)
    (hq0 : dat.q 0 = fullShare.left) (hq1 : dat.q 1 = fullShare.right)
    (W : Valuation τ sig (Elt F)) (hA : ∀ w, dat.A w = W (Pipeline.arrRef spec1 w)) :
    iprop(dat.arrays (dat.arrAt · cfg1.N) ∗ Pipeline.unscopedRest spec1 c (Pipeline.tcVals c W))
      ⊢ (StableHlo.held (c : Thread nD τ) (Pipeline.ucRefs τ sig) (left1 c W dat) : sProp 𝕄) := by
  rw [← Pipeline.unscopedBufs_held, Pipeline.unscopedBufs_split₀ cfgs 1 winFacts₀1.arr_unscoped c (Pipeline.tcVals c (left1 c W dat))]
  have hin : ∀ b : Ref sig .tc, b ≠ main_v21 → left1 c W dat (Proc.devRef .tc b) = W (Proc.devRef .tc b) := fun b hb =>
    Pipeline.withArrays_of_ne (fun _ : Fin 1 => spec1 2) c W _ b fun _ e => hb e.symm
  have hout : left1 c W dat (Proc.devRef .tc main_v21) = dat.arrAt 2 cfg1.N :=
    Pipeline.withArrays_arr (fun _ : Fin 1 => spec1 2) (fun _ _ _ => Subsingleton.elim _ _) c W _ 0
  refine sep_mono ?_ (Entails.of_eq ?_)
  · show _ ⊢ (Pipeline.arrBufs spec1 c _ : sProp 𝕄)
    unfold Pipeline.arrBufs Dat.arrays
    rw [arrImage1, BI.bigSep_insert (by decide), BI.bigSep_singleton, bigSep_W1]
    have h0 : dat.arrAt 0 cfg1.N = W (Pipeline.arrRef spec1 0) := (dat.arrAt_in 0 rfl _).trans (hA 0)
    have h1 : dat.arrAt 1 cfg1.N = W (Pipeline.arrRef spec1 1) := (dat.arrAt_in 1 rfl _).trans (hA 1)
    have hs0 : (cfg1.win 0).arr.view.set = Finset.univ := (arr_whole1 0).set_eq_univ
    have hs2 : (cfg1.win 2).arr.view.set = Finset.univ := (arr_whole1 2).set_eq_univ
    beta_reduce
    rw [h0, h1, hs0, hs2,
      show dat.share 0 = fullShare.left from hq0, show dat.share 1 = fullShare.right from hq1,
      show dat.share 2 = fullShare from rfl]
    rw [show Pipeline.tcVals c (left1 c W dat) main_v20 = W (Proc.devRef .tc main_v20) from hin main_v20 (by decide),
      show Pipeline.tcVals c (left1 c W dat) main_v21 = dat.arrAt 2 cfg1.N from hout]
    exact sep_assoc'.trans (sep_mono (pointsTo_share (PosShare.mem_left_op_right fullShare)).2 .rfl)
  · show Pipeline.unscopedRest spec1 c _ = Pipeline.unscopedRest spec1 c _
    unfold Pipeline.unscopedRest
    refine bigSep_congr fun b hb => ?_
    have hb' : b ≠ main_v21 := fun e => (Finset.mem_sdiff.mp hb).2 (by rw [arrImage1, e]; decide)
    rw [show Pipeline.tcVals c (left1 c W dat) b = W (Proc.devRef .tc b) from hin b hb']

/-! ## Region 6: both input windows read main_v24; the output window writes main_v189 -/

/-- The two buffers behind region 6's three windows. -/
theorem arrImage6 : Finset.univ.image (Pipeline.arrRef spec6) = ({main_v24, main_v189} : Finset (Ref sig .tc)) := by decide

set_option maxHeartbeats 40000000 in
/-- ENTRY. The unscoped buffers at W yield the region's points-tos: the shared input array's full share is dealt to the
    two input windows (left half, right half), the output array goes to its window whole. -/
theorem split6 (c : Dev nD) (dat : Dat τ (Elt F) Unit ℕ (UR sig nD τ) ℕ cfg6 c)
    (hq0 : dat.q 0 = fullShare.left) (hq1 : dat.q 1 = fullShare.right)
    (W : Valuation τ sig (Elt F)) (hA : ∀ w, dat.A w = W (Pipeline.arrRef spec6 w)) :
    (StableHlo.held (c : Thread nD τ) (Pipeline.ucRefs τ sig) W : sProp 𝕄)
      ⊢ iprop(dat.arrays (dat.arrAt · 0) ∗ Pipeline.unscopedRest spec6 c (Pipeline.tcVals c W)) := by
  rw [← Pipeline.unscopedBufs_held, Pipeline.unscopedBufs_split₀ cfgs 6 winFacts₀6.arr_unscoped c (Pipeline.tcVals c W)]
  refine sep_mono ?_ .rfl
  show (Pipeline.arrBufs spec6 c _ : sProp 𝕄) ⊢ _
  unfold Pipeline.arrBufs Dat.arrays
  rw [arrImage6, BI.bigSep_insert (by decide), BI.bigSep_singleton, bigSep_W6]
  have h0 : dat.arrAt 0 0 = W (Pipeline.arrRef spec6 0) := hA 0
  have h1 : dat.arrAt 1 0 = W (Pipeline.arrRef spec6 1) := hA 1
  have h2 : dat.arrAt 2 0 = W (Pipeline.arrRef spec6 2) := hA 2
  have hs0 : (cfg6.win 0).arr.view.set = Finset.univ := (arr_whole6 0).set_eq_univ
  have hs2 : (cfg6.win 2).arr.view.set = Finset.univ := (arr_whole6 2).set_eq_univ
  beta_reduce
  rw [h0, h1, h2, hs0, hs2,
    show dat.share 0 = fullShare.left from hq0, show dat.share 1 = fullShare.right from hq1,
    show dat.share 2 = fullShare from rfl]
  exact (sep_mono (pointsTo_share (PosShare.mem_left_op_right fullShare)).1 .rfl).trans sep_assoc

/-- The valuation region 6 leaves: its output array at what the write-backs leave, every other buffer as found. -/
abbrev left6 (c : Dev nD) (W : Valuation τ sig (Elt F)) (dat : Dat τ (Elt F) Unit ℕ (UR sig nD τ) ℕ cfg6 c) : Valuation τ sig (Elt F) :=
  Pipeline.withArrays (fun _ : Fin 1 => spec6 2) c W fun _ => dat.arrAt 2 cfg6.N

set_option maxHeartbeats 40000000 in
/-- EXIT. The region's points-tos at what the write-backs leave, beside the other unscoped buffers, are the unscoped
    buffers at the exit valuation: the two halves of the shared input array are collected again (an input array is
    never written), the output array holds the write-backs' result. -/
theorem join6 (c : Dev nD) (dat : Dat τ (Elt F) Unit ℕ (UR sig nD τ) ℕ cfg6 c)
    (hq0 : dat.q 0 = fullShare.left) (hq1 : dat.q 1 = fullShare.right)
    (W : Valuation τ sig (Elt F)) (hA : ∀ w, dat.A w = W (Pipeline.arrRef spec6 w)) :
    iprop(dat.arrays (dat.arrAt · cfg6.N) ∗ Pipeline.unscopedRest spec6 c (Pipeline.tcVals c W))
      ⊢ (StableHlo.held (c : Thread nD τ) (Pipeline.ucRefs τ sig) (left6 c W dat) : sProp 𝕄) := by
  rw [← Pipeline.unscopedBufs_held, Pipeline.unscopedBufs_split₀ cfgs 6 winFacts₀6.arr_unscoped c (Pipeline.tcVals c (left6 c W dat))]
  have hin : ∀ b : Ref sig .tc, b ≠ main_v189 → left6 c W dat (Proc.devRef .tc b) = W (Proc.devRef .tc b) := fun b hb =>
    Pipeline.withArrays_of_ne (fun _ : Fin 1 => spec6 2) c W _ b fun _ e => hb e.symm
  have hout : left6 c W dat (Proc.devRef .tc main_v189) = dat.arrAt 2 cfg6.N :=
    Pipeline.withArrays_arr (fun _ : Fin 1 => spec6 2) (fun _ _ _ => Subsingleton.elim _ _) c W _ 0
  refine sep_mono ?_ (Entails.of_eq ?_)
  · show _ ⊢ (Pipeline.arrBufs spec6 c _ : sProp 𝕄)
    unfold Pipeline.arrBufs Dat.arrays
    rw [arrImage6, BI.bigSep_insert (by decide), BI.bigSep_singleton, bigSep_W6]
    have h0 : dat.arrAt 0 cfg6.N = W (Pipeline.arrRef spec6 0) := (dat.arrAt_in 0 rfl _).trans (hA 0)
    have h1 : dat.arrAt 1 cfg6.N = W (Pipeline.arrRef spec6 1) := (dat.arrAt_in 1 rfl _).trans (hA 1)
    have hs0 : (cfg6.win 0).arr.view.set = Finset.univ := (arr_whole6 0).set_eq_univ
    have hs2 : (cfg6.win 2).arr.view.set = Finset.univ := (arr_whole6 2).set_eq_univ
    beta_reduce
    rw [h0, h1, hs0, hs2,
      show dat.share 0 = fullShare.left from hq0, show dat.share 1 = fullShare.right from hq1,
      show dat.share 2 = fullShare from rfl]
    rw [show Pipeline.tcVals c (left6 c W dat) main_v24 = W (Proc.devRef .tc main_v24) from hin main_v24 (by decide),
      show Pipeline.tcVals c (left6 c W dat) main_v189 = dat.arrAt 2 cfg6.N from hout]
    exact sep_assoc'.trans (sep_mono (pointsTo_share (PosShare.mem_left_op_right fullShare)).2 .rfl)
  · show Pipeline.unscopedRest spec6 c _ = Pipeline.unscopedRest spec6 c _
    unfold Pipeline.unscopedRest
    refine bigSep_congr fun b hb => ?_
    have hb' : b ≠ main_v189 := fun e => (Finset.mem_sdiff.mp hb).2 (by rw [arrImage6, e]; decide)
    rw [show Pipeline.tcVals c (left6 c W dat) b = W (Proc.devRef .tc b) from hin b hb']

/-! ## Region 8: both input windows read main_v24; the output window writes main_v699 -/

/-- The two buffers behind region 8's three windows. -/
theorem arrImage8 : Finset.univ.image (Pipeline.arrRef spec8) = ({main_v24, main_v699} : Finset (Ref sig .tc)) := by decide

set_option maxHeartbeats 40000000 in
/-- ENTRY. The unscoped buffers at W yield the region's points-tos: the shared input array's full share is dealt to the
    two input windows (left half, right half), the output array goes to its window whole. -/
theorem split8 (c : Dev nD) (dat : Dat τ (Elt F) Unit ℕ (UR sig nD τ) ℕ cfg8 c)
    (hq0 : dat.q 0 = fullShare.left) (hq1 : dat.q 1 = fullShare.right)
    (W : Valuation τ sig (Elt F)) (hA : ∀ w, dat.A w = W (Pipeline.arrRef spec8 w)) :
    (StableHlo.held (c : Thread nD τ) (Pipeline.ucRefs τ sig) W : sProp 𝕄)
      ⊢ iprop(dat.arrays (dat.arrAt · 0) ∗ Pipeline.unscopedRest spec8 c (Pipeline.tcVals c W)) := by
  rw [← Pipeline.unscopedBufs_held, Pipeline.unscopedBufs_split₀ cfgs 8 winFacts₀8.arr_unscoped c (Pipeline.tcVals c W)]
  refine sep_mono ?_ .rfl
  show (Pipeline.arrBufs spec8 c _ : sProp 𝕄) ⊢ _
  unfold Pipeline.arrBufs Dat.arrays
  rw [arrImage8, BI.bigSep_insert (by decide), BI.bigSep_singleton, bigSep_W8]
  have h0 : dat.arrAt 0 0 = W (Pipeline.arrRef spec8 0) := hA 0
  have h1 : dat.arrAt 1 0 = W (Pipeline.arrRef spec8 1) := hA 1
  have h2 : dat.arrAt 2 0 = W (Pipeline.arrRef spec8 2) := hA 2
  have hs0 : (cfg8.win 0).arr.view.set = Finset.univ := (arr_whole8 0).set_eq_univ
  have hs2 : (cfg8.win 2).arr.view.set = Finset.univ := (arr_whole8 2).set_eq_univ
  beta_reduce
  rw [h0, h1, h2, hs0, hs2,
    show dat.share 0 = fullShare.left from hq0, show dat.share 1 = fullShare.right from hq1,
    show dat.share 2 = fullShare from rfl]
  exact (sep_mono (pointsTo_share (PosShare.mem_left_op_right fullShare)).1 .rfl).trans sep_assoc

/-- The valuation region 8 leaves: its output array at what the write-backs leave, every other buffer as found. -/
abbrev left8 (c : Dev nD) (W : Valuation τ sig (Elt F)) (dat : Dat τ (Elt F) Unit ℕ (UR sig nD τ) ℕ cfg8 c) : Valuation τ sig (Elt F) :=
  Pipeline.withArrays (fun _ : Fin 1 => spec8 2) c W fun _ => dat.arrAt 2 cfg8.N

set_option maxHeartbeats 40000000 in
/-- EXIT. The region's points-tos at what the write-backs leave, beside the other unscoped buffers, are the unscoped
    buffers at the exit valuation: the two halves of the shared input array are collected again (an input array is
    never written), the output array holds the write-backs' result. -/
theorem join8 (c : Dev nD) (dat : Dat τ (Elt F) Unit ℕ (UR sig nD τ) ℕ cfg8 c)
    (hq0 : dat.q 0 = fullShare.left) (hq1 : dat.q 1 = fullShare.right)
    (W : Valuation τ sig (Elt F)) (hA : ∀ w, dat.A w = W (Pipeline.arrRef spec8 w)) :
    iprop(dat.arrays (dat.arrAt · cfg8.N) ∗ Pipeline.unscopedRest spec8 c (Pipeline.tcVals c W))
      ⊢ (StableHlo.held (c : Thread nD τ) (Pipeline.ucRefs τ sig) (left8 c W dat) : sProp 𝕄) := by
  rw [← Pipeline.unscopedBufs_held, Pipeline.unscopedBufs_split₀ cfgs 8 winFacts₀8.arr_unscoped c (Pipeline.tcVals c (left8 c W dat))]
  have hin : ∀ b : Ref sig .tc, b ≠ main_v699 → left8 c W dat (Proc.devRef .tc b) = W (Proc.devRef .tc b) := fun b hb =>
    Pipeline.withArrays_of_ne (fun _ : Fin 1 => spec8 2) c W _ b fun _ e => hb e.symm
  have hout : left8 c W dat (Proc.devRef .tc main_v699) = dat.arrAt 2 cfg8.N :=
    Pipeline.withArrays_arr (fun _ : Fin 1 => spec8 2) (fun _ _ _ => Subsingleton.elim _ _) c W _ 0
  refine sep_mono ?_ (Entails.of_eq ?_)
  · show _ ⊢ (Pipeline.arrBufs spec8 c _ : sProp 𝕄)
    unfold Pipeline.arrBufs Dat.arrays
    rw [arrImage8, BI.bigSep_insert (by decide), BI.bigSep_singleton, bigSep_W8]
    have h0 : dat.arrAt 0 cfg8.N = W (Pipeline.arrRef spec8 0) := (dat.arrAt_in 0 rfl _).trans (hA 0)
    have h1 : dat.arrAt 1 cfg8.N = W (Pipeline.arrRef spec8 1) := (dat.arrAt_in 1 rfl _).trans (hA 1)
    have hs0 : (cfg8.win 0).arr.view.set = Finset.univ := (arr_whole8 0).set_eq_univ
    have hs2 : (cfg8.win 2).arr.view.set = Finset.univ := (arr_whole8 2).set_eq_univ
    beta_reduce
    rw [h0, h1, hs0, hs2,
      show dat.share 0 = fullShare.left from hq0, show dat.share 1 = fullShare.right from hq1,
      show dat.share 2 = fullShare from rfl]
    rw [show Pipeline.tcVals c (left8 c W dat) main_v24 = W (Proc.devRef .tc main_v24) from hin main_v24 (by decide),
      show Pipeline.tcVals c (left8 c W dat) main_v699 = dat.arrAt 2 cfg8.N from hout]
    exact sep_assoc'.trans (sep_mono (pointsTo_share (PosShare.mem_left_op_right fullShare)).2 .rfl)
  · show Pipeline.unscopedRest spec8 c _ = Pipeline.unscopedRest spec8 c _
    unfold Pipeline.unscopedRest
    refine bigSep_congr fun b hb => ?_
    have hb' : b ≠ main_v699 := fun e => (Finset.mem_sdiff.mp hb).2 (by rw [arrImage8, e]; decide)
    rw [show Pipeline.tcVals c (left8 c W dat) b = W (Proc.devRef .tc b) from hin b hb']

end Cert.Kernel.Hand

end
-- ==== Proof.K.Body0.lean ====
/-
  Region 0's kernel body: one matrix product. At a parameter `V` — the TensorCore's buffer contents when the
  region is entered — and a parameter `q` — the share held of each windowed array —, for any float model `F`:
  each window's block at a grid point (`iblk0`); what the body leaves in the output window's staging buffer,
  the product of the two input blocks laid over the whole buffer (`out0_2`); the body's triple
  (`sound_kernel0`); the pipeline's proof data (`dat0`) and its body obligation (`body_obligation0`).

  The body loads both input staging buffers whole, loads the output staging buffer (a value it never uses),
  and stores the product over the whole output buffer: so the output buffer's contents after the body do not
  depend on what it held, and each input buffer is left as found. An input window whose block index does not
  move between consecutive points is not fetched again; its buffer still holds the block because the body
  left it in place.
-/
import proofs.«146970_j35948876268088_1_alg».proof.Proof.Gen.Kernel.Skeleton
import proofs.«146970_j35948876268088_1_alg».proof.Proof.Gen.Kernel.Points
import Idealize.ShloMosaic.Lib.Pipeline.Kit
import Idealize.ShloMosaic.Lib.Pipeline.FrameBody
import Idealize.ShloMosaic.Lib.Ring
import Idealize.ShloMosaic.Lib.Tactic

-- membership in a rectangle of these extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A conjunction over the three windows, written out window by window. -/
theorem bigSep_W0' {M : Type} [URA M] (Φ : Fin 3 → sProp M) : bigSep Finset.univ Φ = iprop(Φ (0 : Fin 3) ∗ Φ (1 : Fin 3) ∗ Φ (2 : Fin 3)) :=
  bigSep_univ_eq_bigSepL [(0 : Fin 3), (1 : Fin 3), (2 : Fin 3)] (by decide) (by decide) Φ

section Region
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s (`hA`) and whose body leaves the block in place (`hafter`): where the window is not
    fetched its block index has not moved, and the previous point's block is this point's. The window is uncut
    and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer likewise. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each staging buffer through its whole rectangle -/

abbrev r0_0 : Rect S256x256 := Rect.unit (s := S256x256) ![0, 0] S256x256.size inb_S256x256_S256x256_0_0
abbrev r0_1 : Rect S256x256 := Rect.unit (s := S256x256) ![0, 0] S256x256.size inb_S256x256_S256x256_0_0
abbrev r0_2 : Rect S256x256 := Rect.unit (s := S256x256) ![0, 0] S256x256.size inb_S256x256_S256x256_0_0

/-! ## What the body leaves in the output window's buffer -/

/-- Window 2's staging buffer after the body, from the input windows' blocks: its one store, of the product of
    the two loaded blocks, over the whole buffer. -/
def out0_2 (x0 : Vec F S256x256 .f32) (x1 : Vec F S256x256 .f32) : Vec F S256x256 .f32 :=
  View.canon [⟨r0_2, k0_pay1 (View.ld x0 r0_0) (View.ld x1 r0_1)⟩]

/-- The store's rectangle is the whole buffer, so it covers it. -/
theorem cover0_2 (p0 : Vec F S256x256 .f32) (y : S256x256.Idx) :
    ∃ pc ∈ ([⟨r0_2, p0⟩] : List (View.Piece (Elt F) S256x256 .f32)), y ∈ pc.1.set :=
  View.cover_of_tiled [⟨r0_2, p0⟩] S256x256.size (by rfl) y

/-! ## The body's triple -/

set_option maxHeartbeats 1000000 in
/-- The kernel body on whole staging memrefs, the inputs' at read contents `x0`, `x1` and the output's at anything,
    runs to the continuation holding the inputs' as they were and the output's at `out0_2 x0 x1`: the value the
    body loads from the output buffer is never used, and the store covers the buffer. -/
theorem sound_kernel0 (c : Dev nD) (E : Set ℕ) (i : grid0.Coords) (arg2 : Memref sig .tc .vmem S256x256 .f32) (harg2 : arg2.IsWhole) (arg3 : Memref sig .tc .vmem S256x256 .f32) (harg3 : arg3.IsWhole) (arg4 : Memref sig .tc .vmem S256x256 .f32) (harg4 : arg4.IsWhole)
    (x0 : Vec F S256x256 .f32) (x1 : Vec F S256x256 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out0_2 x0 x1)) -∗ K ⟨⟩))
      ⊢ wp frame (wpE (defs₀ (F := F)) Variants.none c none) E (cc0__mm_kernel_highest i arg2 harg2 arg3 harg3 arg4 harg4) K := by
  simp only [cc0__mm_kernel_highest_eq_skeleton]; unfold cc0__mm_kernel_highest_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of pipeline 0 on core `c`: the arrays as the region finds them (`V`); after the body at point
    `t` each input's buffer at its block and the output's at `out0_2` of the input blocks; the invariant the scoped
    rest and the generator register, untouched; nothing owed; the shares `q`. -/
def dat0 (q : Fin cfg0.W → PosShare TreeShare) (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q := q
  owed _ := 0

/-- The proof data's arrays are the region-entry contents. -/
theorem A_eq0 (q : Fin cfg0.W → PosShare TreeShare) (c : Dev nD) (w : Fin cfg0.W) : (dat0 V q c).A w = V c (Pipeline.arrRef spec0 w) := by
  dsimp only [dat0]

/-- What the body leaves, window by window. -/
theorem after0_0 (q : Fin cfg0.W → PosShare TreeShare) (c : Dev nD) (t : Fin cfg0.N) : (dat0 V q c).after 0 t = iblk0 V c 0 t := by dsimp only [dat0]
theorem after0_1 (q : Fin cfg0.W → PosShare TreeShare) (c : Dev nD) (t : Fin cfg0.N) : (dat0 V q c).after 1 t = iblk0 V c 1 t := by dsimp only [dat0]
theorem after0_2 (q : Fin cfg0.W → PosShare TreeShare) (c : Dev nD) (t : Fin cfg0.N) : (dat0 V q c).after 2 t = out0_2 (iblk0 V c 0 t) (iblk0 V c 1 t) := by dsimp only [dat0]

/-- Each input's current staging buffer holds its block at every point, fetched there or not. -/
theorem before0_0 (q : Fin cfg0.W → PosShare TreeShare) (c : Dev nD) (t : Fin cfg0.N) (d) : (dat0 V q c).before 0 t d = iblk0 V c 0 t :=
  before0_0_of V (dat0 V q c) (A_eq0 V q c 0) (after0_0 V q c) t d
theorem before0_1 (q : Fin cfg0.W → PosShare TreeShare) (c : Dev nD) (t : Fin cfg0.N) (d) : (dat0 V q c).before 1 t d = iblk0 V c 1 t :=
  before0_1_of V (dat0 V q c) (A_eq0 V q c 1) (after0_1 V q c) t d

/-! ## The body obligation, at a generic point -/

/-- What the body is called with at point `t`, the windows one by one, -/
def bodyPre0 (q : Fin cfg0.W → PosShare TreeShare) (c : Dev nD) (t : Fin cfg0.N) : sProp 𝕄 :=
  iprop((dat0 V q c).Φ t.castSucc ∗ (dat0 V q c).owesAt () t.castSucc
    ∗ (∃ d, owns (c : Thread nD τ) (st0_0 t) fullShare ((dat0 V q c).before 0 t d))
    ∗ (∃ d, owns (c : Thread nD τ) (st0_1 t) fullShare ((dat0 V q c).before 1 t d))
    ∗ (∃ d, owns (c : Thread nD τ) (st0_2 t) fullShare ((dat0 V q c).before 2 t d)))

/-- and what it returns. -/
def bodyPost0 (q : Fin cfg0.W → PosShare TreeShare) (c : Dev nD) (t : Fin cfg0.N) : sProp 𝕄 :=
  iprop((dat0 V q c).Φ t.succ ∗ (dat0 V q c).owesAt () t.succ
    ∗ owns (c : Thread nD τ) (st0_0 t) fullShare ((dat0 V q c).after 0 t)
    ∗ owns (c : Thread nD τ) (st0_1 t) fullShare ((dat0 V q c).after 1 t)
    ∗ owns (c : Thread nD τ) (st0_2 t) fullShare ((dat0 V q c).after 2 t))

/-- The body at any point: the inputs' memrefs hold their blocks, so the body's triple applies; the invariant and
    the core's tallies pass through unread. -/
theorem sound_body0 (q : Fin cfg0.W → PosShare TreeShare) (c : Dev nD) (t : Fin cfg0.N) :
    bodyPre0 V q c t ⊢ wp frame (wpE (defs₀ (F := F)) Variants.none c none) Set.univ (bodyAt0 t) (fun _ => bodyPost0 V q c t) := by
  unfold bodyPre0 bodyPost0 bodyAt0
  simp only [before0_0, before0_1]
  rw [show (dat0 V q c).Φ t.succ = (dat0 V q c).Φ t.castSucc from rfl,
    show (dat0 V q c).owesAt () t.succ = (dat0 V q c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation0 (q : Fin cfg0.W → PosShare TreeShare) (c : Dev nD) :
    BodyObligation (dat0 (F := F) V q c) (defs₀ (F := F)) Variants.none () Set.univ := fun t => by
  rw [bigSep_W0', bigSep_W0']
  exact sound_body0 V q c t

end Region

end Cert.Kernel.Hand

end
-- ==== Proof.K.Body1.lean ====
/-
  Region 1's kernel body: one matrix product. At a parameter `V` — the TensorCore's buffer contents when the
  region is entered — and a parameter `q` — the share held of each windowed array —, for any float model `F`:
  each window's block at a grid point (`iblk1`); what the body leaves in the output window's staging buffer,
  the product of the two input blocks laid over the whole buffer (`out1_2`); the body's triple
  (`sound_kernel1`); the pipeline's proof data (`dat1`) and its body obligation (`body_obligation1`).

  The body loads both input staging buffers whole, loads the output staging buffer (a value it never uses),
  and stores the product over the whole output buffer: so the output buffer's contents after the body do not
  depend on what it held, and each input buffer is left as found. An input window whose block index does not
  move between consecutive points is not fetched again; its buffer still holds the block because the body
  left it in place.
-/
import proofs.«146970_j35948876268088_1_alg».proof.Proof.Gen.Kernel.Skeleton
import proofs.«146970_j35948876268088_1_alg».proof.Proof.Gen.Kernel.Points
import Idealize.ShloMosaic.Lib.Pipeline.Kit
import Idealize.ShloMosaic.Lib.Pipeline.FrameBody
import Idealize.ShloMosaic.Lib.Ring
import Idealize.ShloMosaic.Lib.Tactic

-- membership in a rectangle of these extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A conjunction over the three windows, written out window by window. -/
theorem bigSep_W1' {M : Type} [URA M] (Φ : Fin 3 → sProp M) : bigSep Finset.univ Φ = iprop(Φ (0 : Fin 3) ∗ Φ (1 : Fin 3) ∗ Φ (2 : Fin 3)) :=
  bigSep_univ_eq_bigSepL [(0 : Fin 3), (1 : Fin 3), (2 : Fin 3)] (by decide) (by decide) Φ

section Region
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s (`hA`) and whose body leaves the block in place (`hafter`): where the window is not
    fetched its block index has not moved, and the previous point's block is this point's. The window is uncut
    and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer likewise. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each staging buffer through its whole rectangle -/

abbrev r1_0 : Rect S256x2048 := Rect.unit (s := S256x2048) ![0, 0] S256x2048.size inb_S256x2048_S256x2048_0_0
abbrev r1_1 : Rect S2048x256 := Rect.unit (s := S2048x256) ![0, 0] S2048x256.size inb_S2048x256_S2048x256_0_0
abbrev r1_2 : Rect S256x256 := Rect.unit (s := S256x256) ![0, 0] S256x256.size inb_S256x256_S256x256_0_0

/-! ## What the body leaves in the output window's buffer -/

/-- Window 2's staging buffer after the body, from the input windows' blocks: its one store, of the product of
    the two loaded blocks, over the whole buffer. -/
def out1_2 (x0 : Vec F S256x2048 .f32) (x1 : Vec F S2048x256 .f32) : Vec F S256x256 .f32 :=
  View.canon [⟨r1_2, k1_pay1 (View.ld x0 r1_0) (View.ld x1 r1_1)⟩]

/-- The store's rectangle is the whole buffer, so it covers it. -/
theorem cover1_2 (p0 : Vec F S256x256 .f32) (y : S256x256.Idx) :
    ∃ pc ∈ ([⟨r1_2, p0⟩] : List (View.Piece (Elt F) S256x256 .f32)), y ∈ pc.1.set :=
  View.cover_of_tiled [⟨r1_2, p0⟩] S256x256.size (by rfl) y

/-! ## The body's triple -/

set_option maxHeartbeats 1000000 in
/-- The kernel body on whole staging memrefs, the inputs' at read contents `x0`, `x1` and the output's at anything,
    runs to the continuation holding the inputs' as they were and the output's at `out1_2 x0 x1`: the value the
    body loads from the output buffer is never used, and the store covers the buffer. -/
theorem sound_kernel1 (c : Dev nD) (E : Set ℕ) (i : grid1.Coords) (arg2 : Memref sig .tc .vmem S256x2048 .f32) (harg2 : arg2.IsWhole) (arg3 : Memref sig .tc .vmem S2048x256 .f32) (harg3 : arg3.IsWhole) (arg4 : Memref sig .tc .vmem S256x256 .f32) (harg4 : arg4.IsWhole)
    (x0 : Vec F S256x2048 .f32) (x1 : Vec F S2048x256 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out1_2 x0 x1)) -∗ K ⟨⟩))
      ⊢ wp frame (wpE (defs₀ (F := F)) Variants.none c none) E (cc1__mm_kernel_highest i arg2 harg2 arg3 harg3 arg4 harg4) K := by
  simp only [cc1__mm_kernel_highest_eq_skeleton]; unfold cc1__mm_kernel_highest_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The pipeline's proof data -/

/-- The proof data of pipeline 1 on core `c`: the arrays as the region finds them (`V`); after the body at point
    `t` each input's buffer at its block and the output's at `out1_2` of the input blocks; the invariant the scoped
    rest and the generator register, untouched; nothing owed; the shares `q`. -/
def dat1 (q : Fin cfg1.W → PosShare TreeShare) (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q := q
  owed _ := 0

/-- The proof data's arrays are the region-entry contents. -/
theorem A_eq1 (q : Fin cfg1.W → PosShare TreeShare) (c : Dev nD) (w : Fin cfg1.W) : (dat1 V q c).A w = V c (Pipeline.arrRef spec1 w) := by
  dsimp only [dat1]

/-- What the body leaves, window by window. -/
theorem after1_0 (q : Fin cfg1.W → PosShare TreeShare) (c : Dev nD) (t : Fin cfg1.N) : (dat1 V q c).after 0 t = iblk1 V c 0 t := by dsimp only [dat1]
theorem after1_1 (q : Fin cfg1.W → PosShare TreeShare) (c : Dev nD) (t : Fin cfg1.N) : (dat1 V q c).after 1 t = iblk1 V c 1 t := by dsimp only [dat1]
theorem after1_2 (q : Fin cfg1.W → PosShare TreeShare) (c : Dev nD) (t : Fin cfg1.N) : (dat1 V q c).after 2 t = out1_2 (iblk1 V c 0 t) (iblk1 V c 1 t) := by dsimp only [dat1]

/-- Each input's current staging buffer holds its block at every point, fetched there or not. -/
theorem before1_0 (q : Fin cfg1.W → PosShare TreeShare) (c : Dev nD) (t : Fin cfg1.N) (d) : (dat1 V q c).before 0 t d = iblk1 V c 0 t :=
  before1_0_of V (dat1 V q c) (A_eq1 V q c 0) (after1_0 V q c) t d
theorem before1_1 (q : Fin cfg1.W → PosShare TreeShare) (c : Dev nD) (t : Fin cfg1.N) (d) : (dat1 V q c).before 1 t d = iblk1 V c 1 t :=
  before1_1_of V (dat1 V q c) (A_eq1 V q c 1) (after1_1 V q c) t d

/-! ## The body obligation, at a generic point -/

/-- What the body is called with at point `t`, the windows one by one, -/
def bodyPre1 (q : Fin cfg1.W → PosShare TreeShare) (c : Dev nD) (t : Fin cfg1.N) : sProp 𝕄 :=
  iprop((dat1 V q c).Φ t.castSucc ∗ (dat1 V q c).owesAt () t.castSucc
    ∗ (∃ d, owns (c : Thread nD τ) (st1_0 t) fullShare ((dat1 V q c).before 0 t d))
    ∗ (∃ d, owns (c : Thread nD τ) (st1_1 t) fullShare ((dat1 V q c).before 1 t d))
    ∗ (∃ d, owns (c : Thread nD τ) (st1_2 t) fullShare ((dat1 V q c).before 2 t d)))

/-- and what it returns. -/
def bodyPost1 (q : Fin cfg1.W → PosShare TreeShare) (c : Dev nD) (t : Fin cfg1.N) : sProp 𝕄 :=
  iprop((dat1 V q c).Φ t.succ ∗ (dat1 V q c).owesAt () t.succ
    ∗ owns (c : Thread nD τ) (st1_0 t) fullShare ((dat1 V q c).after 0 t)
    ∗ owns (c : Thread nD τ) (st1_1 t) fullShare ((dat1 V q c).after 1 t)
    ∗ owns (c : Thread nD τ) (st1_2 t) fullShare ((dat1 V q c).after 2 t))

/-- The body at any point: the inputs' memrefs hold their blocks, so the body's triple applies; the invariant and
    the core's tallies pass through unread. -/
theorem sound_body1 (q : Fin cfg1.W → PosShare TreeShare) (c : Dev nD) (t : Fin cfg1.N) :
    bodyPre1 V q c t ⊢ wp frame (wpE (defs₀ (F := F)) Variants.none c none) Set.univ (bodyAt1 t) (fun _ => bodyPost1 V q c t) := by
  unfold bodyPre1 bodyPost1 bodyAt1
  simp only [before1_0, before1_1]
  rw [show (dat1 V q c).Φ t.succ = (dat1 V q c).Φ t.castSucc from rfl,
    show (dat1 V q c).owesAt () t.succ = (dat1 V q c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation1 (q : Fin cfg1.W → PosShare TreeShare) (c : Dev nD) :
    BodyObligation (dat1 (F := F) V q c) (defs₀ (F := F)) Variants.none () Set.univ := fun t => by
  rw [bigSep_W1', bigSep_W1']
  exact sound_body1 V q c t

end Region

end Cert.Kernel.Hand

end
-- ==== Proof.K.Body2.lean ====
/-
  Region 2's kernel body: one matrix product. At a parameter `V` — the TensorCore's buffer contents when the
  region is entered — and a parameter `q` — the share held of each windowed array —, for any float model `F`:
  each window's block at a grid point (`iblk2`); what the body leaves in the output window's staging buffer,
  the product of the two input blocks laid over the whole buffer (`out2_2`); the body's triple
  (`sound_kernel2`); the pipeline's proof data (`dat2`) and its body obligation (`body_obligation2`).

  The body loads both input staging buffers whole, loads the output staging buffer (a value it never uses),
  and stores the product over the whole output buffer: so the output buffer's contents after the body do not
  depend on what it held, and each input buffer is left as found. An input window whose block index does not
  move between consecutive points is not fetched again; its buffer still holds the block because the body
  left it in place.
-/
import proofs.«146970_j35948876268088_1_alg».proof.Proof.Gen.Kernel.Skeleton
import proofs.«146970_j35948876268088_1_alg».proof.Proof.Gen.Kernel.Points
import Idealize.ShloMosaic.Lib.Pipeline.Kit
import Idealize.ShloMosaic.Lib.Pipeline.FrameBody
import Idealize.ShloMosaic.Lib.Ring
import Idealize.ShloMosaic.Lib.Tactic

-- membership in a rectangle of these extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A conjunction over the three windows, written out window by window. -/
theorem bigSep_W2' {M : Type} [URA M] (Φ : Fin 3 → sProp M) : bigSep Finset.univ Φ = iprop(Φ (0 : Fin 3) ∗ Φ (1 : Fin 3) ∗ Φ (2 : Fin 3)) :=
  bigSep_univ_eq_bigSepL [(0 : Fin 3), (1 : Fin 3), (2 : Fin 3)] (by decide) (by decide) Φ

section Region
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof
    data whose array is `V`'s (`hA`) and whose body leaves the block in place (`hafter`): where the window is not
    fetched its block index has not moved, and the previous point's block is this point's. The window is uncut
    and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer likewise. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each staging buffer through its whole rectangle -/

abbrev r2_0 : Rect S256x2048 := Rect.unit (s := S256x2048) ![0, 0] S256x2048.size inb_S256x2048_S256x2048_0_0
abbrev r2_1 : Rect S2048x256 := Rect.unit (s := S2048x256) ![0, 0] S2048x256.size inb_S2048x256_S2048x256_0_0
abbrev r2_2 : Rect S256x256 := Rect.unit (s := S256x256) ![0, 0] S256x256.size inb_S256x256_S256x256_0_0

/-! ## What the body leaves in the output window's buffer -/

/-- Window 2's staging buffer after the body, from the input windows' blocks: its one store, of the product of
    the two loaded blocks, over the whole buffer. -/
def out2_2 (x0 : Vec F S256x2048 .f32) (x1 : Vec F S2048x256 .f32) : Vec F S256x256 .f32 :=
  View.canon [⟨r2_2, k2_pay1 (View.ld x0 r2_0) (View.ld x1 r2_1)⟩]

/-- The store's rectangle is the whole buffer, so it covers it. -/
theorem cover2_2 (p0 : Vec F S256x256 .f32) (y : S256x256.Idx) :
    ∃ pc ∈ ([⟨r2_2, p0⟩] : List (View.Piece (Elt F) S256x256 .f32)), y ∈ pc.1.set :=
  View.cover_of_tiled [⟨r2_2, p0⟩] S256x256.size (by rfl) y

/-! ## The body's triple -/

set_option maxHeartbeats 1000000 in
/-- The kernel body on whole staging memrefs, the inputs' at read contents `x0`, `x1` and the output's at anything,
    runs to the continuation holding the inputs' as they were and the output's at `out2_2 x0 x1`: the value the
    body loads from the output buffer is never used, and the store covers the buffer. -/
theorem sound_kernel2 (c : Dev nD) (E : Set ℕ) (i : grid2.Coords) (arg2 : Memref sig .tc .vmem S256x2048 .f32) (harg2 : arg2.IsWhole) (arg3 : Memref sig .tc .vmem S2048x256 .f32) (harg3 : arg3.IsWhole) (arg4 : Memref sig .tc .vmem S256x256 .f32) (harg4 : arg4.IsWhole)
    (x0 : Vec F S256x2048 .f32) (x1 : Vec F S2048x256 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out2_2 x0 x1)) -∗ K ⟨⟩))
      ⊢ wp frame (wpE (defs₀ (F := F)) Variants.none c none) E (cc2__mm_kernel_highest i arg2 harg2 arg3 harg3 arg4 harg4) K := by
  simp only [cc2__mm_kernel_highest_eq_skeleton]; unfold cc2__mm_kernel_highest_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The pipeline's proof data -/

/-- The proof data of pipeline 2 on core `c`: the arrays as the region finds them (`V`); after the body at point
    `t` each input's buffer at its block and the output's at `out2_2` of the input blocks; the invariant the scoped
    rest and the generator register, untouched; nothing owed; the shares `q`. -/
def dat2 (q : Fin cfg2.W → PosShare TreeShare) (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q := q
  owed _ := 0

/-- The proof data's arrays are the region-entry contents. -/
theorem A_eq2 (q : Fin cfg2.W → PosShare TreeShare) (c : Dev nD) (w : Fin cfg2.W) : (dat2 V q c).A w = V c (Pipeline.arrRef spec2 w) := by
  dsimp only [dat2]

/-- What the body leaves, window by window. -/
theorem after2_0 (q : Fin cfg2.W → PosShare TreeShare) (c : Dev nD) (t : Fin cfg2.N) : (dat2 V q c).after 0 t = iblk2 V c 0 t := by dsimp only [dat2]
theorem after2_1 (q : Fin cfg2.W → PosShare TreeShare) (c : Dev nD) (t : Fin cfg2.N) : (dat2 V q c).after 1 t = iblk2 V c 1 t := by dsimp only [dat2]
theorem after2_2 (q : Fin cfg2.W → PosShare TreeShare) (c : Dev nD) (t : Fin cfg2.N) : (dat2 V q c).after 2 t = out2_2 (iblk2 V c 0 t) (iblk2 V c 1 t) := by dsimp only [dat2]

/-- Each input's current staging buffer holds its block at every point, fetched there or not. -/
theorem before2_0 (q : Fin cfg2.W → PosShare TreeShare) (c : Dev nD) (t : Fin cfg2.N) (d) : (dat2 V q c).before 0 t d = iblk2 V c 0 t :=
  before2_0_of V (dat2 V q c) (A_eq2 V q c 0) (after2_0 V q c) t d
theorem before2_1 (q : Fin cfg2.W → PosShare TreeShare) (c : Dev nD) (t : Fin cfg2.N) (d) : (dat2 V q c).before 1 t d = iblk2 V c 1 t :=
  before2_1_of V (dat2 V q c) (A_eq2 V q c 1) (after2_1 V q c) t d

/-! ## The body obligation, at a generic point -/

/-- What the body is called with at point `t`, the windows one by one, -/
def bodyPre2 (q : Fin cfg2.W → PosShare TreeShare) (c : Dev nD) (t : Fin cfg2.N) : sProp 𝕄 :=
  iprop((dat2 V q c).Φ t.castSucc ∗ (dat2 V q c).owesAt () t.castSucc
    ∗ (∃ d, owns (c : Thread nD τ) (st2_0 t) fullShare ((dat2 V q c).before 0 t d))
    ∗ (∃ d, owns (c : Thread nD τ) (st2_1 t) fullShare ((dat2 V q c).before 1 t d))
    ∗ (∃ d, owns (c : Thread nD τ) (st2_2 t) fullShare ((dat2 V q c).before 2 t d)))

/-- and what it returns. -/
def bodyPost2 (q : Fin cfg2.W → PosShare TreeShare) (c : Dev nD) (t : Fin cfg2.N) : sProp 𝕄 :=
  iprop((dat2 V q c).Φ t.succ ∗ (dat2 V q c).owesAt () t.succ
    ∗ owns (c : Thread nD τ) (st2_0 t) fullShare ((dat2 V q c).after 0 t)
    ∗ owns (c : Thread nD τ) (st2_1 t) fullShare ((dat2 V q c).after 1 t)
    ∗ owns (c : Thread nD τ) (st2_2 t) fullShare ((dat2 V q c).after 2 t))

/-- The body at any point: the inputs' memrefs hold their blocks, so the body's triple applies; the invariant and
    the core's tallies pass through unread. -/
theorem sound_body2 (q : Fin cfg2.W → PosShare TreeShare) (c : Dev nD) (t : Fin cfg2.N) :
    bodyPre2 V q c t ⊢ wp frame (wpE (defs₀ (F := F)) Variants.none c none) Set.univ (bodyAt2 t) (fun _ => bodyPost2 V q c t) := by
  unfold bodyPre2 bodyPost2 bodyAt2
  simp only [before2_0, before2_1]
  rw [show (dat2 V q c).Φ t.succ = (dat2 V q c).Φ t.castSucc from rfl,
    show (dat2 V q c).owesAt () t.succ = (dat2 V q c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation2 (q : Fin cfg2.W → PosShare TreeShare) (c : Dev nD) :
    BodyObligation (dat2 (F := F) V q c) (defs₀ (F := F)) Variants.none () Set.univ := fun t => by
  rw [bigSep_W2', bigSep_W2']
  exact sound_body2 V q c t

end Region

end Cert.Kernel.Hand

end
-- ==== Proof.K.Body3.lean ====
/-
  Region 3's kernel body: one matrix product. At a parameter `V` — the TensorCore's buffer contents when the
  region is entered — and a parameter `q` — the share held of each windowed array —, for any float model `F`:
  each window's block at a grid point (`iblk3`); what the body leaves in the output window's staging buffer,
  the product of the two input blocks laid over the whole buffer (`out3_2`); the body's triple
  (`sound_kernel3`); the pipeline's proof data (`dat3`) and its body obligation (`body_obligation3`).

  The body loads both input staging buffers whole, loads the output staging buffer (a value it never uses),
  and stores the product over the whole output buffer: so the output buffer's contents after the body do not
  depend on what it held, and each input buffer is left as found. An input window whose block index does not
  move between consecutive points is not fetched again; its buffer still holds the block because the body
  left it in place.
-/
import proofs.«146970_j35948876268088_1_alg».proof.Proof.Gen.Kernel.Skeleton
import proofs.«146970_j35948876268088_1_alg».proof.Proof.Gen.Kernel.Points
import Idealize.ShloMosaic.Lib.Pipeline.Kit
import Idealize.ShloMosaic.Lib.Pipeline.FrameBody
import Idealize.ShloMosaic.Lib.Ring
import Idealize.ShloMosaic.Lib.Tactic

-- membership in a rectangle of these extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A conjunction over the three windows, written out window by window. -/
theorem bigSep_W3' {M : Type} [URA M] (Φ : Fin 3 → sProp M) : bigSep Finset.univ Φ = iprop(Φ (0 : Fin 3) ∗ Φ (1 : Fin 3) ∗ Φ (2 : Fin 3)) :=
  bigSep_univ_eq_bigSepL [(0 : Fin 3), (1 : Fin 3), (2 : Fin 3)] (by decide) (by decide) Φ

section Region
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for any proof
    data whose array is `V`'s (`hA`) and whose body leaves the block in place (`hafter`): where the window is not
    fetched its block index has not moved, and the previous point's block is this point's. The window is uncut
    and never idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer likewise. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each staging buffer through its whole rectangle -/

abbrev r3_0 : Rect S256x256 := Rect.unit (s := S256x256) ![0, 0] S256x256.size inb_S256x256_S256x256_0_0
abbrev r3_1 : Rect S256x256 := Rect.unit (s := S256x256) ![0, 0] S256x256.size inb_S256x256_S256x256_0_0
abbrev r3_2 : Rect S256x256 := Rect.unit (s := S256x256) ![0, 0] S256x256.size inb_S256x256_S256x256_0_0

/-! ## What the body leaves in the output window's buffer -/

/-- Window 2's staging buffer after the body, from the input windows' blocks: its one store, of the product of
    the two loaded blocks, over the whole buffer. -/
def out3_2 (x0 : Vec F S256x256 .f32) (x1 : Vec F S256x256 .f32) : Vec F S256x256 .f32 :=
  View.canon [⟨r3_2, k3_pay1 (View.ld x0 r3_0) (View.ld x1 r3_1)⟩]

/-- The store's rectangle is the whole buffer, so it covers it. -/
theorem cover3_2 (p0 : Vec F S256x256 .f32) (y : S256x256.Idx) :
    ∃ pc ∈ ([⟨r3_2, p0⟩] : List (View.Piece (Elt F) S256x256 .f32)), y ∈ pc.1.set :=
  View.cover_of_tiled [⟨r3_2, p0⟩] S256x256.size (by rfl) y

/-! ## The body's triple -/

set_option maxHeartbeats 1000000 in
/-- The kernel body on whole staging memrefs, the inputs' at read contents `x0`, `x1` and the output's at anything,
    runs to the continuation holding the inputs' as they were and the output's at `out3_2 x0 x1`: the value the
    body loads from the output buffer is never used, and the store covers the buffer. -/
theorem sound_kernel3 (c : Dev nD) (E : Set ℕ) (i : grid3.Coords) (arg2 : Memref sig .tc .vmem S256x256 .f32) (harg2 : arg2.IsWhole) (arg3 : Memref sig .tc .vmem S256x256 .f32) (harg3 : arg3.IsWhole) (arg4 : Memref sig .tc .vmem S256x256 .f32) (harg4 : arg4.IsWhole)
    (x0 : Vec F S256x256 .f32) (x1 : Vec F S256x256 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out3_2 x0 x1)) -∗ K ⟨⟩))
      ⊢ wp frame (wpE (defs₀ (F := F)) Variants.none c none) E (cc3__mm_kernel_highest i arg2 harg2 arg3 harg3 arg4 harg4) K := by
  simp only [cc3__mm_kernel_highest_eq_skeleton]; unfold cc3__mm_kernel_highest_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-! ## The pipeline's proof data -/

/-- The proof data of pipeline 3 on core `c`: the arrays as the region finds them (`V`); after the body at point
    `t` each input's buffer at its block and the output's at `out3_2` of the input blocks; the invariant the scoped
    rest and the generator register, untouched; nothing owed; the shares `q`. -/
def dat3 (q : Fin cfg3.W → PosShare TreeShare) (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q := q
  owed _ := 0

/-- The proof data's arrays are the region-entry contents. -/
theorem A_eq3 (q : Fin cfg3.W → PosShare TreeShare) (c : Dev nD) (w : Fin cfg3.W) : (dat3 V q c).A w = V c (Pipeline.arrRef spec3 w) := by
  dsimp only [dat3]

/-- What the body leaves, window by window. -/
theorem after3_0 (q : Fin cfg3.W → PosShare TreeShare) (c : Dev nD) (t : Fin cfg3.N) : (dat3 V q c).after 0 t = iblk3 V c 0 t := by dsimp only [dat3]
theorem after3_1 (q : Fin cfg3.W → PosShare TreeShare) (c : Dev nD) (t : Fin cfg3.N) : (dat3 V q c).after 1 t = iblk3 V c 1 t := by dsimp only [dat3]
theorem after3_2 (q : Fin cfg3.W → PosShare TreeShare) (c : Dev nD) (t : Fin cfg3.N) : (dat3 V q c).after 2 t = out3_2 (iblk3 V c 0 t) (iblk3 V c 1 t) := by dsimp only [dat3]

/-- Each input's current staging buffer holds its block at every point, fetched there or not. -/
theorem before3_0 (q : Fin cfg3.W → PosShare TreeShare) (c : Dev nD) (t : Fin cfg3.N) (d) : (dat3 V q c).before 0 t d = iblk3 V c 0 t :=
  before3_0_of V (dat3 V q c) (A_eq3 V q c 0) (after3_0 V q c) t d
theorem before3_1 (q : Fin cfg3.W → PosShare TreeShare) (c : Dev nD) (t : Fin cfg3.N) (d) : (dat3 V q c).before 1 t d = iblk3 V c 1 t :=
  before3_1_of V (dat3 V q c) (A_eq3 V q c 1) (after3_1 V q c) t d

/-! ## The body obligation, at a generic point -/

/-- What the body is called with at point `t`, the windows one by one, -/
def bodyPre3 (q : Fin cfg3.W → PosShare TreeShare) (c : Dev nD) (t : Fin cfg3.N) : sProp 𝕄 :=
  iprop((dat3 V q c).Φ t.castSucc ∗ (dat3 V q c).owesAt () t.castSucc
    ∗ (∃ d, owns (c : Thread nD τ) (st3_0 t) fullShare ((dat3 V q c).before 0 t d))
    ∗ (∃ d, owns (c : Thread nD τ) (st3_1 t) fullShare ((dat3 V q c).before 1 t d))
    ∗ (∃ d, owns (c : Thread nD τ) (st3_2 t) fullShare ((dat3 V q c).before 2 t d)))

/-- and what it returns. -/
def bodyPost3 (q : Fin cfg3.W → PosShare TreeShare) (c : Dev nD) (t : Fin cfg3.N) : sProp 𝕄 :=
  iprop((dat3 V q c).Φ t.succ ∗ (dat3 V q c).owesAt () t.succ
    ∗ owns (c : Thread nD τ) (st3_0 t) fullShare ((dat3 V q c).after 0 t)
    ∗ owns (c : Thread nD τ) (st3_1 t) fullShare ((dat3 V q c).after 1 t)
    ∗ owns (c : Thread nD τ) (st3_2 t) fullShare ((dat3 V q c).after 2 t))

/-- The body at any point: the inputs' memrefs hold their blocks, so the body's triple applies; the invariant and
    the core's tallies pass through unread. -/
theorem sound_body3 (q : Fin cfg3.W → PosShare TreeShare) (c : Dev nD) (t : Fin cfg3.N) :
    bodyPre3 V q c t ⊢ wp frame (wpE (defs₀ (F := F)) Variants.none c none) Set.univ (bodyAt3 t) (fun _ => bodyPost3 V q c t) := by
  unfold bodyPre3 bodyPost3 bodyAt3
  simp only [before3_0, before3_1]
  rw [show (dat3 V q c).Φ t.succ = (dat3 V q c).Φ t.castSucc from rfl,
    show (dat3 V q c).owesAt () t.succ = (dat3 V q c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation3 (q : Fin cfg3.W → PosShare TreeShare) (c : Dev nD) :
    BodyObligation (dat3 (F := F) V q c) (defs₀ (F := F)) Variants.none () Set.univ := fun t => by
  rw [bigSep_W3', bigSep_W3']
  exact sound_body3 V q c t

end Region

end Cert.Kernel.Hand

end
-- ==== Proof.K.Body4.lean ====
/-
  Region 4's kernel body: one matrix product. At a parameter `V` — the TensorCore's buffer contents when the
  region is entered — and a parameter `q` — the share held of each windowed array —, for any float model `F`:
  each window's block at a grid point (`iblk4`); what the body leaves in the output window's staging buffer,
  the product of the two input blocks laid over the whole buffer (`out4_2`); the body's triple
  (`sound_kernel4`); the pipeline's proof data (`dat4`) and its body obligation (`body_obligation4`).

  The body loads both input staging buffers whole, loads the output staging buffer (a value it never uses),
  and stores the product over the whole output buffer: so the output buffer's contents after the body do not
  depend on what it held, and each input buffer is left as found. An input window whose block index does not
  move between consecutive points is not fetched again; its buffer still holds the block because the body
  left it in place.
-/
import proofs.«146970_j35948876268088_1_alg».proof.Proof.Gen.Kernel.Skeleton
import proofs.«146970_j35948876268088_1_alg».proof.Proof.Gen.Kernel.Points
import Idealize.ShloMosaic.Lib.Pipeline.Kit
import Idealize.ShloMosaic.Lib.Pipeline.FrameBody
import Idealize.ShloMosaic.Lib.Ring
import Idealize.ShloMosaic.Lib.Tactic

-- membership in a rectangle of these extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A conjunction over the three windows, written out window by window. -/
theorem bigSep_W4' {M : Type} [URA M] (Φ : Fin 3 → sProp M) : bigSep Finset.univ Φ = iprop(Φ (0 : Fin 3) ∗ Φ (1 : Fin 3) ∗ Φ (2 : Fin 3)) :=
  bigSep_univ_eq_bigSepL [(0 : Fin 3), (1 : Fin 3), (2 : Fin 3)] (by decide) (by decide) Φ

section Region
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not, for any proof
    data whose array is `V`'s (`hA`) and whose body leaves the block in place (`hafter`): where the window is not
    fetched its block index has not moved, and the previous point's block is this point's. The window is uncut
    and never idle. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current staging buffer likewise. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses: each staging buffer through its whole rectangle -/

abbrev r4_0 : Rect S256x2048 := Rect.unit (s := S256x2048) ![0, 0] S256x2048.size inb_S256x2048_S256x2048_0_0
abbrev r4_1 : Rect S2048x256 := Rect.unit (s := S2048x256) ![0, 0] S2048x256.size inb_S2048x256_S2048x256_0_0
abbrev r4_2 : Rect S256x256 := Rect.unit (s := S256x256) ![0, 0] S256x256.size inb_S256x256_S256x256_0_0

/-! ## What the body leaves in the output window's buffer -/

/-- Window 2's staging buffer after the body, from the input windows' blocks: its one store, of the product of
    the two loaded blocks, over the whole buffer. -/
def out4_2 (x0 : Vec F S256x2048 .f32) (x1 : Vec F S2048x256 .f32) : Vec F S256x256 .f32 :=
  View.canon [⟨r4_2, k4_pay1 (View.ld x0 r4_0) (View.ld x1 r4_1)⟩]

/-- The store's rectangle is the whole buffer, so it covers it. -/
theorem cover4_2 (p0 : Vec F S256x256 .f32) (y : S256x256.Idx) :
    ∃ pc ∈ ([⟨r4_2, p0⟩] : List (View.Piece (Elt F) S256x256 .f32)), y ∈ pc.1.set :=
  View.cover_of_tiled [⟨r4_2, p0⟩] S256x256.size (by rfl) y

/-! ## The body's triple -/

set_option maxHeartbeats 1000000 in
/-- The kernel body on whole staging memrefs, the inputs' at read contents `x0`, `x1` and the output's at anything,
    runs to the continuation holding the inputs' as they were and the output's at `out4_2 x0 x1`: the value the
    body loads from the output buffer is never used, and the store covers the buffer. -/
theorem sound_kernel4 (c : Dev nD) (E : Set ℕ) (i : grid4.Coords) (arg2 : Memref sig .tc .vmem S256x2048 .f32) (harg2 : arg2.IsWhole) (arg3 : Memref sig .tc .vmem S2048x256 .f32) (harg3 : arg3.IsWhole) (arg4 : Memref sig .tc .vmem S256x256 .f32) (harg4 : arg4.IsWhole)
    (x0 : Vec F S256x2048 .f32) (x1 : Vec F S2048x256 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out4_2 x0 x1)) -∗ K ⟨⟩))
      ⊢ wp frame (wpE (defs₀ (F := F)) Variants.none c none) E (cc4__mm_kernel_highest i arg2 harg2 arg3 harg3 arg4 harg4) K := by
  simp only [cc4__mm_kernel_highest_eq_skeleton]; unfold cc4__mm_kernel_highest_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover4_2 _)

/-! ## The pipeline's proof data -/

/-- The proof data of pipeline 4 on core `c`: the arrays as the region finds them (`V`); after the body at point
    `t` each input's buffer at its block and the output's at `out4_2` of the input blocks; the invariant the scoped
    rest and the generator register, untouched; nothing owed; the shares `q`. -/
def dat4 (q : Fin cfg4.W → PosShare TreeShare) (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q := q
  owed _ := 0

/-- The proof data's arrays are the region-entry contents. -/
theorem A_eq4 (q : Fin cfg4.W → PosShare TreeShare) (c : Dev nD) (w : Fin cfg4.W) : (dat4 V q c).A w = V c (Pipeline.arrRef spec4 w) := by
  dsimp only [dat4]

/-- What the body leaves, window by window. -/
theorem after4_0 (q : Fin cfg4.W → PosShare TreeShare) (c : Dev nD) (t : Fin cfg4.N) : (dat4 V q c).after 0 t = iblk4 V c 0 t := by dsimp only [dat4]
theorem after4_1 (q : Fin cfg4.W → PosShare TreeShare) (c : Dev nD) (t : Fin cfg4.N) : (dat4 V q c).after 1 t = iblk4 V c 1 t := by dsimp only [dat4]
theorem after4_2 (q : Fin cfg4.W → PosShare TreeShare) (c : Dev nD) (t : Fin cfg4.N) : (dat4 V q c).after 2 t = out4_2 (iblk4 V c 0 t) (iblk4 V c 1 t) := by dsimp only [dat4]

/-- Each input's current staging buffer holds its block at every point, fetched there or not. -/
theorem before4_0 (q : Fin cfg4.W → PosShare TreeShare) (c : Dev nD) (t : Fin cfg4.N) (d) : (dat4 V q c).before 0 t d = iblk4 V c 0 t :=
  before4_0_of V (dat4 V q c) (A_eq4 V q c 0) (after4_0 V q c) t d
theorem before4_1 (q : Fin cfg4.W → PosShare TreeShare) (c : Dev nD) (t : Fin cfg4.N) (d) : (dat4 V q c).before 1 t d = iblk4 V c 1 t :=
  before4_1_of V (dat4 V q c) (A_eq4 V q c 1) (after4_1 V q c) t d

/-! ## The body obligation, at a generic point -/

/-- What the body is called with at point `t`, the windows one by one, -/
def bodyPre4 (q : Fin cfg4.W → PosShare TreeShare) (c : Dev nD) (t : Fin cfg4.N) : sProp 𝕄 :=
  iprop((dat4 V q c).Φ t.castSucc ∗ (dat4 V q c).owesAt () t.castSucc
    ∗ (∃ d, owns (c : Thread nD τ) (st4_0 t) fullShare ((dat4 V q c).before 0 t d))
    ∗ (∃ d, owns (c : Thread nD τ) (st4_1 t) fullShare ((dat4 V q c).before 1 t d))
    ∗ (∃ d, owns (c : Thread nD τ) (st4_2 t) fullShare ((dat4 V q c).before 2 t d)))

/-- and what it returns. -/
def bodyPost4 (q : Fin cfg4.W → PosShare TreeShare) (c : Dev nD) (t : Fin cfg4.N) : sProp 𝕄 :=
  iprop((dat4 V q c).Φ t.succ ∗ (dat4 V q c).owesAt () t.succ
    ∗ owns (c : Thread nD τ) (st4_0 t) fullShare ((dat4 V q c).after 0 t)
    ∗ owns (c : Thread nD τ) (st4_1 t) fullShare ((dat4 V q c).after 1 t)
    ∗ owns (c : Thread nD τ) (st4_2 t) fullShare ((dat4 V q c).after 2 t))

/-- The body at any point: the inputs' memrefs hold their blocks, so the body's triple applies; the invariant and
    the core's tallies pass through unread. -/
theorem sound_body4 (q : Fin cfg4.W → PosShare TreeShare) (c : Dev nD) (t : Fin cfg4.N) :
    bodyPre4 V q c t ⊢ wp frame (wpE (defs₀ (F := F)) Variants.none c none) Set.univ (bodyAt4 t) (fun _ => bodyPost4 V q c t) := by
  unfold bodyPre4 bodyPost4 bodyAt4
  simp only [before4_0, before4_1]
  rw [show (dat4 V q c).Φ t.succ = (dat4 V q c).Φ t.castSucc from rfl,
    show (dat4 V q c).owesAt () t.succ = (dat4 V q c).owesAt () t.castSucc from rfl,
    after4_0, after4_1, after4_2]
  iintro ⟨HΦ, Ho, ⟨%d0, H0⟩, ⟨%d1, H1⟩, ⟨%d2, H2⟩⟩
  iapply (sound_kernel4 c Set.univ _ _ _ _ _ _ _ (iblk4 V c 0 t) (iblk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation4 (q : Fin cfg4.W → PosShare TreeShare) (c : Dev nD) :
    BodyObligation (dat4 (F := F) V q c) (defs₀ (F := F)) Variants.none () Set.univ := fun t => by
  rw [bigSep_W4', bigSep_W4']
  exact sound_body4 V q c t

end Region

end Cert.Kernel.Hand

end
-- ==== Proof.K.Body5.lean ====
/-
  Region 5's kernel body: one matrix product. At a parameter `V` — the TensorCore's buffer contents when the
  region is entered — and a parameter `q` — the share held of each windowed array —, for any float model `F`:
  each window's block at a grid point (`iblk5`); what the body leaves in the output window's staging buffer,
  the product of the two input blocks laid over the whole buffer (`out5_2`); the body's triple
  (`sound_kernel5`); the pipeline's proof data (`dat5`) and its body obligation (`body_obligation5`).

  The body loads both input staging buffers whole, loads the output staging buffer (a value it never uses),
  and stores the product over the whole output buffer: so the output buffer's contents after the body do not
  depend on what it held, and each input buffer is left as found. An input window whose block index does not
  move between consecutive points is not fetched again; its buffer still holds the block because the body
  left it in place.
-/
import proofs.«146970_j35948876268088_1_alg».proof.Proof.Gen.Kernel.Skeleton
import proofs.«146970_j35948876268088_1_alg».proof.Proof.Gen.Kernel.Points
import Idealize.ShloMosaic.Lib.Pipeline.Kit
import Idealize.ShloMosaic.Lib.Pipeline.FrameBody
import Idealize.ShloMosaic.Lib.Ring
import Idealize.ShloMosaic.Lib.Tactic

-- membership in a rectangle of these extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A conjunction over the three windows, written out window by window. -/
theorem bigSep_W5' {M : Type} [URA M] (Φ : Fin 3 → sProp M) : bigSep Finset.univ Φ = iprop(Φ (0 : Fin 3) ∗ Φ (1 : Fin 3) ∗ Φ (2 : Fin 3)) :=
  bigSep_univ_eq_bigSepL [(0 : Fin 3), (1 : Fin 3), (2 : Fin 3)] (by decide) (by decide) Φ

section Region
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, fetched there or not, for any proof
    data whose array is `V`'s (`hA`) and whose body leaves the block in place (`hafter`): where the window is not
    fetched its block index has not moved, and the previous point's block is this point's. The window is uncut
    and never idle. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's current staging buffer likewise. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses: each staging buffer through its whole rectangle -/

abbrev r5_0 : Rect S256x256 := Rect.unit (s := S256x256) ![0, 0] S256x256.size inb_S256x256_S256x256_0_0
abbrev r5_1 : Rect S256x256 := Rect.unit (s := S256x256) ![0, 0] S256x256.size inb_S256x256_S256x256_0_0
abbrev r5_2 : Rect S256x256 := Rect.unit (s := S256x256) ![0, 0] S256x256.size inb_S256x256_S256x256_0_0

/-! ## What the body leaves in the output window's buffer -/

/-- Window 2's staging buffer after the body, from the input windows' blocks: its one store, of the product of
    the two loaded blocks, over the whole buffer. -/
def out5_2 (x0 : Vec F S256x256 .f32) (x1 : Vec F S256x256 .f32) : Vec F S256x256 .f32 :=
  View.canon [⟨r5_2, k5_pay1 (View.ld x0 r5_0) (View.ld x1 r5_1)⟩]

/-- The store's rectangle is the whole buffer, so it covers it. -/
theorem cover5_2 (p0 : Vec F S256x256 .f32) (y : S256x256.Idx) :
    ∃ pc ∈ ([⟨r5_2, p0⟩] : List (View.Piece (Elt F) S256x256 .f32)), y ∈ pc.1.set :=
  View.cover_of_tiled [⟨r5_2, p0⟩] S256x256.size (by rfl) y

/-! ## The body's triple -/

set_option maxHeartbeats 1000000 in
/-- The kernel body on whole staging memrefs, the inputs' at read contents `x0`, `x1` and the output's at anything,
    runs to the continuation holding the inputs' as they were and the output's at `out5_2 x0 x1`: the value the
    body loads from the output buffer is never used, and the store covers the buffer. -/
theorem sound_kernel5 (c : Dev nD) (E : Set ℕ) (i : grid5.Coords) (arg2 : Memref sig .tc .vmem S256x256 .f32) (harg2 : arg2.IsWhole) (arg3 : Memref sig .tc .vmem S256x256 .f32) (harg3 : arg3.IsWhole) (arg4 : Memref sig .tc .vmem S256x256 .f32) (harg4 : arg4.IsWhole)
    (x0 : Vec F S256x256 .f32) (x1 : Vec F S256x256 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out5_2 x0 x1)) -∗ K ⟨⟩))
      ⊢ wp frame (wpE (defs₀ (F := F)) Variants.none c none) E (cc5__mm_kernel_highest i arg2 harg2 arg3 harg3 arg4 harg4) K := by
  simp only [cc5__mm_kernel_highest_eq_skeleton]; unfold cc5__mm_kernel_highest_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover5_2 _)

/-! ## The pipeline's proof data -/

/-- The proof data of pipeline 5 on core `c`: the arrays as the region finds them (`V`); after the body at point
    `t` each input's buffer at its block and the output's at `out5_2` of the input blocks; the invariant the scoped
    rest and the generator register, untouched; nothing owed; the shares `q`. -/
def dat5 (q : Fin cfg5.W → PosShare TreeShare) (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => out5_2 (iblk5 V c 0 t) (iblk5 V c 1 t)
  Φ _ := Pipeline.ΦA spec5 c
  q := q
  owed _ := 0

/-- The proof data's arrays are the region-entry contents. -/
theorem A_eq5 (q : Fin cfg5.W → PosShare TreeShare) (c : Dev nD) (w : Fin cfg5.W) : (dat5 V q c).A w = V c (Pipeline.arrRef spec5 w) := by
  dsimp only [dat5]

/-- What the body leaves, window by window. -/
theorem after5_0 (q : Fin cfg5.W → PosShare TreeShare) (c : Dev nD) (t : Fin cfg5.N) : (dat5 V q c).after 0 t = iblk5 V c 0 t := by dsimp only [dat5]
theorem after5_1 (q : Fin cfg5.W → PosShare TreeShare) (c : Dev nD) (t : Fin cfg5.N) : (dat5 V q c).after 1 t = iblk5 V c 1 t := by dsimp only [dat5]
theorem after5_2 (q : Fin cfg5.W → PosShare TreeShare) (c : Dev nD) (t : Fin cfg5.N) : (dat5 V q c).after 2 t = out5_2 (iblk5 V c 0 t) (iblk5 V c 1 t) := by dsimp only [dat5]

/-- Each input's current staging buffer holds its block at every point, fetched there or not. -/
theorem before5_0 (q : Fin cfg5.W → PosShare TreeShare) (c : Dev nD) (t : Fin cfg5.N) (d) : (dat5 V q c).before 0 t d = iblk5 V c 0 t :=
  before5_0_of V (dat5 V q c) (A_eq5 V q c 0) (after5_0 V q c) t d
theorem before5_1 (q : Fin cfg5.W → PosShare TreeShare) (c : Dev nD) (t : Fin cfg5.N) (d) : (dat5 V q c).before 1 t d = iblk5 V c 1 t :=
  before5_1_of V (dat5 V q c) (A_eq5 V q c 1) (after5_1 V q c) t d

/-! ## The body obligation, at a generic point -/

/-- What the body is called with at point `t`, the windows one by one, -/
def bodyPre5 (q : Fin cfg5.W → PosShare TreeShare) (c : Dev nD) (t : Fin cfg5.N) : sProp 𝕄 :=
  iprop((dat5 V q c).Φ t.castSucc ∗ (dat5 V q c).owesAt () t.castSucc
    ∗ (∃ d, owns (c : Thread nD τ) (st5_0 t) fullShare ((dat5 V q c).before 0 t d))
    ∗ (∃ d, owns (c : Thread nD τ) (st5_1 t) fullShare ((dat5 V q c).before 1 t d))
    ∗ (∃ d, owns (c : Thread nD τ) (st5_2 t) fullShare ((dat5 V q c).before 2 t d)))

/-- and what it returns. -/
def bodyPost5 (q : Fin cfg5.W → PosShare TreeShare) (c : Dev nD) (t : Fin cfg5.N) : sProp 𝕄 :=
  iprop((dat5 V q c).Φ t.succ ∗ (dat5 V q c).owesAt () t.succ
    ∗ owns (c : Thread nD τ) (st5_0 t) fullShare ((dat5 V q c).after 0 t)
    ∗ owns (c : Thread nD τ) (st5_1 t) fullShare ((dat5 V q c).after 1 t)
    ∗ owns (c : Thread nD τ) (st5_2 t) fullShare ((dat5 V q c).after 2 t))

/-- The body at any point: the inputs' memrefs hold their blocks, so the body's triple applies; the invariant and
    the core's tallies pass through unread. -/
theorem sound_body5 (q : Fin cfg5.W → PosShare TreeShare) (c : Dev nD) (t : Fin cfg5.N) :
    bodyPre5 V q c t ⊢ wp frame (wpE (defs₀ (F := F)) Variants.none c none) Set.univ (bodyAt5 t) (fun _ => bodyPost5 V q c t) := by
  unfold bodyPre5 bodyPost5 bodyAt5
  simp only [before5_0, before5_1]
  rw [show (dat5 V q c).Φ t.succ = (dat5 V q c).Φ t.castSucc from rfl,
    show (dat5 V q c).owesAt () t.succ = (dat5 V q c).owesAt () t.castSucc from rfl,
    after5_0, after5_1, after5_2]
  iintro ⟨HΦ, Ho, ⟨%d0, H0⟩, ⟨%d1, H1⟩, ⟨%d2, H2⟩⟩
  iapply (sound_kernel5 c Set.univ _ _ _ _ _ _ _ (iblk5 V c 0 t) (iblk5 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation5 (q : Fin cfg5.W → PosShare TreeShare) (c : Dev nD) :
    BodyObligation (dat5 (F := F) V q c) (defs₀ (F := F)) Variants.none () Set.univ := fun t => by
  rw [bigSep_W5', bigSep_W5']
  exact sound_body5 V q c t

end Region

end Cert.Kernel.Hand

end
-- ==== Proof.K.Body6.lean ====
/-
  Region 6's kernel body: one matrix product. At a parameter `V` — the TensorCore's buffer contents when the
  region is entered — and a parameter `q` — the share held of each windowed array —, for any float model `F`:
  each window's block at a grid point (`iblk6`); what the body leaves in the output window's staging buffer,
  the product of the two input blocks laid over the whole buffer (`out6_2`); the body's triple
  (`sound_kernel6`); the pipeline's proof data (`dat6`) and its body obligation (`body_obligation6`).

  The body loads both input staging buffers whole, loads the output staging buffer (a value it never uses),
  and stores the product over the whole output buffer: so the output buffer's contents after the body do not
  depend on what it held, and each input buffer is left as found. An input window whose block index does not
  move between consecutive points is not fetched again; its buffer still holds the block because the body
  left it in place.
-/
import proofs.«146970_j35948876268088_1_alg».proof.Proof.Gen.Kernel.Skeleton
import proofs.«146970_j35948876268088_1_alg».proof.Proof.Gen.Kernel.Points
import Idealize.ShloMosaic.Lib.Pipeline.Kit
import Idealize.ShloMosaic.Lib.Pipeline.FrameBody
import Idealize.ShloMosaic.Lib.Ring
import Idealize.ShloMosaic.Lib.Tactic

-- membership in a rectangle of these extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A conjunction over the three windows, written out window by window. -/
theorem bigSep_W6' {M : Type} [URA M] (Φ : Fin 3 → sProp M) : bigSep Finset.univ Φ = iprop(Φ (0 : Fin 3) ∗ Φ (1 : Fin 3) ∗ Φ (2 : Fin 3)) :=
  bigSep_univ_eq_bigSepL [(0 : Fin 3), (1 : Fin 3), (2 : Fin 3)] (by decide) (by decide) Φ

section Region
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's current staging buffer holds its block at every point, fetched there or not, for any proof
    data whose array is `V`'s (`hA`) and whose body leaves the block in place (`hafter`): where the window is not
    fetched its block index has not moved, and the previous point's block is this point's. The window is uncut
    and never idle. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- Input window 1's current staging buffer likewise. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses: each staging buffer through its whole rectangle -/

abbrev r6_0 : Rect S256x2048 := Rect.unit (s := S256x2048) ![0, 0] S256x2048.size inb_S256x2048_S256x2048_0_0
abbrev r6_1 : Rect S2048x256 := Rect.unit (s := S2048x256) ![0, 0] S2048x256.size inb_S2048x256_S2048x256_0_0
abbrev r6_2 : Rect S256x256 := Rect.unit (s := S256x256) ![0, 0] S256x256.size inb_S256x256_S256x256_0_0

/-! ## What the body leaves in the output window's buffer -/

/-- Window 2's staging buffer after the body, from the input windows' blocks: its one store, of the product of
    the two loaded blocks, over the whole buffer. -/
def out6_2 (x0 : Vec F S256x2048 .f32) (x1 : Vec F S2048x256 .f32) : Vec F S256x256 .f32 :=
  View.canon [⟨r6_2, k6_pay1 (View.ld x0 r6_0) (View.ld x1 r6_1)⟩]

/-- The store's rectangle is the whole buffer, so it covers it. -/
theorem cover6_2 (p0 : Vec F S256x256 .f32) (y : S256x256.Idx) :
    ∃ pc ∈ ([⟨r6_2, p0⟩] : List (View.Piece (Elt F) S256x256 .f32)), y ∈ pc.1.set :=
  View.cover_of_tiled [⟨r6_2, p0⟩] S256x256.size (by rfl) y

/-! ## The body's triple -/

set_option maxHeartbeats 1000000 in
/-- The kernel body on whole staging memrefs, the inputs' at read contents `x0`, `x1` and the output's at anything,
    runs to the continuation holding the inputs' as they were and the output's at `out6_2 x0 x1`: the value the
    body loads from the output buffer is never used, and the store covers the buffer. -/
theorem sound_kernel6 (c : Dev nD) (E : Set ℕ) (i : grid6.Coords) (arg2 : Memref sig .tc .vmem S256x2048 .f32) (harg2 : arg2.IsWhole) (arg3 : Memref sig .tc .vmem S2048x256 .f32) (harg3 : arg3.IsWhole) (arg4 : Memref sig .tc .vmem S256x256 .f32) (harg4 : arg4.IsWhole)
    (x0 : Vec F S256x2048 .f32) (x1 : Vec F S2048x256 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out6_2 x0 x1)) -∗ K ⟨⟩))
      ⊢ wp frame (wpE (defs₀ (F := F)) Variants.none c none) E (cc6__mm_kernel_highest i arg2 harg2 arg3 harg3 arg4 harg4) K := by
  simp only [cc6__mm_kernel_highest_eq_skeleton]; unfold cc6__mm_kernel_highest_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover6_2 _)

/-! ## The pipeline's proof data -/

/-- The proof data of pipeline 6 on core `c`: the arrays as the region finds them (`V`); after the body at point
    `t` each input's buffer at its block and the output's at `out6_2` of the input blocks; the invariant the scoped
    rest and the generator register, untouched; nothing owed; the shares `q`. -/
def dat6 (q : Fin cfg6.W → PosShare TreeShare) (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => out6_2 (iblk6 V c 0 t) (iblk6 V c 1 t)
  Φ _ := Pipeline.ΦA spec6 c
  q := q
  owed _ := 0

/-- The proof data's arrays are the region-entry contents. -/
theorem A_eq6 (q : Fin cfg6.W → PosShare TreeShare) (c : Dev nD) (w : Fin cfg6.W) : (dat6 V q c).A w = V c (Pipeline.arrRef spec6 w) := by
  dsimp only [dat6]

/-- What the body leaves, window by window. -/
theorem after6_0 (q : Fin cfg6.W → PosShare TreeShare) (c : Dev nD) (t : Fin cfg6.N) : (dat6 V q c).after 0 t = iblk6 V c 0 t := by dsimp only [dat6]
theorem after6_1 (q : Fin cfg6.W → PosShare TreeShare) (c : Dev nD) (t : Fin cfg6.N) : (dat6 V q c).after 1 t = iblk6 V c 1 t := by dsimp only [dat6]
theorem after6_2 (q : Fin cfg6.W → PosShare TreeShare) (c : Dev nD) (t : Fin cfg6.N) : (dat6 V q c).after 2 t = out6_2 (iblk6 V c 0 t) (iblk6 V c 1 t) := by dsimp only [dat6]

/-- Each input's current staging buffer holds its block at every point, fetched there or not. -/
theorem before6_0 (q : Fin cfg6.W → PosShare TreeShare) (c : Dev nD) (t : Fin cfg6.N) (d) : (dat6 V q c).before 0 t d = iblk6 V c 0 t :=
  before6_0_of V (dat6 V q c) (A_eq6 V q c 0) (after6_0 V q c) t d
theorem before6_1 (q : Fin cfg6.W → PosShare TreeShare) (c : Dev nD) (t : Fin cfg6.N) (d) : (dat6 V q c).before 1 t d = iblk6 V c 1 t :=
  before6_1_of V (dat6 V q c) (A_eq6 V q c 1) (after6_1 V q c) t d

/-! ## The body obligation, at a generic point -/

/-- What the body is called with at point `t`, the windows one by one, -/
def bodyPre6 (q : Fin cfg6.W → PosShare TreeShare) (c : Dev nD) (t : Fin cfg6.N) : sProp 𝕄 :=
  iprop((dat6 V q c).Φ t.castSucc ∗ (dat6 V q c).owesAt () t.castSucc
    ∗ (∃ d, owns (c : Thread nD τ) (st6_0 t) fullShare ((dat6 V q c).before 0 t d))
    ∗ (∃ d, owns (c : Thread nD τ) (st6_1 t) fullShare ((dat6 V q c).before 1 t d))
    ∗ (∃ d, owns (c : Thread nD τ) (st6_2 t) fullShare ((dat6 V q c).before 2 t d)))

/-- and what it returns. -/
def bodyPost6 (q : Fin cfg6.W → PosShare TreeShare) (c : Dev nD) (t : Fin cfg6.N) : sProp 𝕄 :=
  iprop((dat6 V q c).Φ t.succ ∗ (dat6 V q c).owesAt () t.succ
    ∗ owns (c : Thread nD τ) (st6_0 t) fullShare ((dat6 V q c).after 0 t)
    ∗ owns (c : Thread nD τ) (st6_1 t) fullShare ((dat6 V q c).after 1 t)
    ∗ owns (c : Thread nD τ) (st6_2 t) fullShare ((dat6 V q c).after 2 t))

/-- The body at any point: the inputs' memrefs hold their blocks, so the body's triple applies; the invariant and
    the core's tallies pass through unread. -/
theorem sound_body6 (q : Fin cfg6.W → PosShare TreeShare) (c : Dev nD) (t : Fin cfg6.N) :
    bodyPre6 V q c t ⊢ wp frame (wpE (defs₀ (F := F)) Variants.none c none) Set.univ (bodyAt6 t) (fun _ => bodyPost6 V q c t) := by
  unfold bodyPre6 bodyPost6 bodyAt6
  simp only [before6_0, before6_1]
  rw [show (dat6 V q c).Φ t.succ = (dat6 V q c).Φ t.castSucc from rfl,
    show (dat6 V q c).owesAt () t.succ = (dat6 V q c).owesAt () t.castSucc from rfl,
    after6_0, after6_1, after6_2]
  iintro ⟨HΦ, Ho, ⟨%d0, H0⟩, ⟨%d1, H1⟩, ⟨%d2, H2⟩⟩
  iapply (sound_kernel6 c Set.univ _ _ _ _ _ _ _ (iblk6 V c 0 t) (iblk6 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation6 (q : Fin cfg6.W → PosShare TreeShare) (c : Dev nD) :
    BodyObligation (dat6 (F := F) V q c) (defs₀ (F := F)) Variants.none () Set.univ := fun t => by
  rw [bigSep_W6', bigSep_W6']
  exact sound_body6 V q c t

end Region

end Cert.Kernel.Hand

end
-- ==== Proof.K.Body7.lean ====
/-
  Region 7's kernel body: one matrix product. At a parameter `V` — the TensorCore's buffer contents when the
  region is entered — and a parameter `q` — the share held of each windowed array —, for any float model `F`:
  each window's block at a grid point (`iblk7`); what the body leaves in the output window's staging buffer,
  the product of the two input blocks laid over the whole buffer (`out7_2`); the body's triple
  (`sound_kernel7`); the pipeline's proof data (`dat7`) and its body obligation (`body_obligation7`).

  The body loads both input staging buffers whole, loads the output staging buffer (a value it never uses),
  and stores the product over the whole output buffer: so the output buffer's contents after the body do not
  depend on what it held, and each input buffer is left as found. An input window whose block index does not
  move between consecutive points is not fetched again; its buffer still holds the block because the body
  left it in place.
-/
import proofs.«146970_j35948876268088_1_alg».proof.Proof.Gen.Kernel.Skeleton
import proofs.«146970_j35948876268088_1_alg».proof.Proof.Gen.Kernel.Points
import Idealize.ShloMosaic.Lib.Pipeline.Kit
import Idealize.ShloMosaic.Lib.Pipeline.FrameBody
import Idealize.ShloMosaic.Lib.Ring
import Idealize.ShloMosaic.Lib.Tactic

-- membership in a rectangle of these extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A conjunction over the three windows, written out window by window. -/
theorem bigSep_W7' {M : Type} [URA M] (Φ : Fin 3 → sProp M) : bigSep Finset.univ Φ = iprop(Φ (0 : Fin 3) ∗ Φ (1 : Fin 3) ∗ Φ (2 : Fin 3)) :=
  bigSep_univ_eq_bigSepL [(0 : Fin 3), (1 : Fin 3), (2 : Fin 3)] (by decide) (by decide) Φ

section Region
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0's current staging buffer holds its block at every point, fetched there or not, for any proof
    data whose array is `V`'s (`hA`) and whose body leaves the block in place (`hafter`): where the window is not
    fetched its block index has not moved, and the previous point's block is this point's. The window is uncut
    and never idle. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- Input window 1's current staging buffer likewise. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-! ## The body's accesses: each staging buffer through its whole rectangle -/

abbrev r7_0 : Rect S256x256 := Rect.unit (s := S256x256) ![0, 0] S256x256.size inb_S256x256_S256x256_0_0
abbrev r7_1 : Rect S256x256 := Rect.unit (s := S256x256) ![0, 0] S256x256.size inb_S256x256_S256x256_0_0
abbrev r7_2 : Rect S256x256 := Rect.unit (s := S256x256) ![0, 0] S256x256.size inb_S256x256_S256x256_0_0

/-! ## What the body leaves in the output window's buffer -/

/-- Window 2's staging buffer after the body, from the input windows' blocks: its one store, of the product of
    the two loaded blocks, over the whole buffer. -/
def out7_2 (x0 : Vec F S256x256 .f32) (x1 : Vec F S256x256 .f32) : Vec F S256x256 .f32 :=
  View.canon [⟨r7_2, k7_pay1 (View.ld x0 r7_0) (View.ld x1 r7_1)⟩]

/-- The store's rectangle is the whole buffer, so it covers it. -/
theorem cover7_2 (p0 : Vec F S256x256 .f32) (y : S256x256.Idx) :
    ∃ pc ∈ ([⟨r7_2, p0⟩] : List (View.Piece (Elt F) S256x256 .f32)), y ∈ pc.1.set :=
  View.cover_of_tiled [⟨r7_2, p0⟩] S256x256.size (by rfl) y

/-! ## The body's triple -/

set_option maxHeartbeats 1000000 in
/-- The kernel body on whole staging memrefs, the inputs' at read contents `x0`, `x1` and the output's at anything,
    runs to the continuation holding the inputs' as they were and the output's at `out7_2 x0 x1`: the value the
    body loads from the output buffer is never used, and the store covers the buffer. -/
theorem sound_kernel7 (c : Dev nD) (E : Set ℕ) (i : grid7.Coords) (arg2 : Memref sig .tc .vmem S256x256 .f32) (harg2 : arg2.IsWhole) (arg3 : Memref sig .tc .vmem S256x256 .f32) (harg3 : arg3.IsWhole) (arg4 : Memref sig .tc .vmem S256x256 .f32) (harg4 : arg4.IsWhole)
    (x0 : Vec F S256x256 .f32) (x1 : Vec F S256x256 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out7_2 x0 x1)) -∗ K ⟨⟩))
      ⊢ wp frame (wpE (defs₀ (F := F)) Variants.none c none) E (cc7__mm_kernel_highest i arg2 harg2 arg3 harg3 arg4 harg4) K := by
  simp only [cc7__mm_kernel_highest_eq_skeleton]; unfold cc7__mm_kernel_highest_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover7_2 _)

/-! ## The pipeline's proof data -/

/-- The proof data of pipeline 7 on core `c`: the arrays as the region finds them (`V`); after the body at point
    `t` each input's buffer at its block and the output's at `out7_2` of the input blocks; the invariant the scoped
    rest and the generator register, untouched; nothing owed; the shares `q`. -/
def dat7 (q : Fin cfg7.W → PosShare TreeShare) (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => out7_2 (iblk7 V c 0 t) (iblk7 V c 1 t)
  Φ _ := Pipeline.ΦA spec7 c
  q := q
  owed _ := 0

/-- The proof data's arrays are the region-entry contents. -/
theorem A_eq7 (q : Fin cfg7.W → PosShare TreeShare) (c : Dev nD) (w : Fin cfg7.W) : (dat7 V q c).A w = V c (Pipeline.arrRef spec7 w) := by
  dsimp only [dat7]

/-- What the body leaves, window by window. -/
theorem after7_0 (q : Fin cfg7.W → PosShare TreeShare) (c : Dev nD) (t : Fin cfg7.N) : (dat7 V q c).after 0 t = iblk7 V c 0 t := by dsimp only [dat7]
theorem after7_1 (q : Fin cfg7.W → PosShare TreeShare) (c : Dev nD) (t : Fin cfg7.N) : (dat7 V q c).after 1 t = iblk7 V c 1 t := by dsimp only [dat7]
theorem after7_2 (q : Fin cfg7.W → PosShare TreeShare) (c : Dev nD) (t : Fin cfg7.N) : (dat7 V q c).after 2 t = out7_2 (iblk7 V c 0 t) (iblk7 V c 1 t) := by dsimp only [dat7]

/-- Each input's current staging buffer holds its block at every point, fetched there or not. -/
theorem before7_0 (q : Fin cfg7.W → PosShare TreeShare) (c : Dev nD) (t : Fin cfg7.N) (d) : (dat7 V q c).before 0 t d = iblk7 V c 0 t :=
  before7_0_of V (dat7 V q c) (A_eq7 V q c 0) (after7_0 V q c) t d
theorem before7_1 (q : Fin cfg7.W → PosShare TreeShare) (c : Dev nD) (t : Fin cfg7.N) (d) : (dat7 V q c).before 1 t d = iblk7 V c 1 t :=
  before7_1_of V (dat7 V q c) (A_eq7 V q c 1) (after7_1 V q c) t d

/-! ## The body obligation, at a generic point -/

/-- What the body is called with at point `t`, the windows one by one, -/
def bodyPre7 (q : Fin cfg7.W → PosShare TreeShare) (c : Dev nD) (t : Fin cfg7.N) : sProp 𝕄 :=
  iprop((dat7 V q c).Φ t.castSucc ∗ (dat7 V q c).owesAt () t.castSucc
    ∗ (∃ d, owns (c : Thread nD τ) (st7_0 t) fullShare ((dat7 V q c).before 0 t d))
    ∗ (∃ d, owns (c : Thread nD τ) (st7_1 t) fullShare ((dat7 V q c).before 1 t d))
    ∗ (∃ d, owns (c : Thread nD τ) (st7_2 t) fullShare ((dat7 V q c).before 2 t d)))

/-- and what it returns. -/
def bodyPost7 (q : Fin cfg7.W → PosShare TreeShare) (c : Dev nD) (t : Fin cfg7.N) : sProp 𝕄 :=
  iprop((dat7 V q c).Φ t.succ ∗ (dat7 V q c).owesAt () t.succ
    ∗ owns (c : Thread nD τ) (st7_0 t) fullShare ((dat7 V q c).after 0 t)
    ∗ owns (c : Thread nD τ) (st7_1 t) fullShare ((dat7 V q c).after 1 t)
    ∗ owns (c : Thread nD τ) (st7_2 t) fullShare ((dat7 V q c).after 2 t))

/-- The body at any point: the inputs' memrefs hold their blocks, so the body's triple applies; the invariant and
    the core's tallies pass through unread. -/
theorem sound_body7 (q : Fin cfg7.W → PosShare TreeShare) (c : Dev nD) (t : Fin cfg7.N) :
    bodyPre7 V q c t ⊢ wp frame (wpE (defs₀ (F := F)) Variants.none c none) Set.univ (bodyAt7 t) (fun _ => bodyPost7 V q c t) := by
  unfold bodyPre7 bodyPost7 bodyAt7
  simp only [before7_0, before7_1]
  rw [show (dat7 V q c).Φ t.succ = (dat7 V q c).Φ t.castSucc from rfl,
    show (dat7 V q c).owesAt () t.succ = (dat7 V q c).owesAt () t.castSucc from rfl,
    after7_0, after7_1, after7_2]
  iintro ⟨HΦ, Ho, ⟨%d0, H0⟩, ⟨%d1, H1⟩, ⟨%d2, H2⟩⟩
  iapply (sound_kernel7 c Set.univ _ _ _ _ _ _ _ (iblk7 V c 0 t) (iblk7 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation7 (q : Fin cfg7.W → PosShare TreeShare) (c : Dev nD) :
    BodyObligation (dat7 (F := F) V q c) (defs₀ (F := F)) Variants.none () Set.univ := fun t => by
  rw [bigSep_W7', bigSep_W7']
  exact sound_body7 V q c t

end Region

end Cert.Kernel.Hand

end
-- ==== Proof.K.Body8.lean ====
/-
  Region 8's kernel body: one matrix product. At a parameter `V` — the TensorCore's buffer contents when the
  region is entered — and a parameter `q` — the share held of each windowed array —, for any float model `F`:
  each window's block at a grid point (`iblk8`); what the body leaves in the output window's staging buffer,
  the product of the two input blocks laid over the whole buffer (`out8_2`); the body's triple
  (`sound_kernel8`); the pipeline's proof data (`dat8`) and its body obligation (`body_obligation8`).

  The body loads both input staging buffers whole, loads the output staging buffer (a value it never uses),
  and stores the product over the whole output buffer: so the output buffer's contents after the body do not
  depend on what it held, and each input buffer is left as found. An input window whose block index does not
  move between consecutive points is not fetched again; its buffer still holds the block because the body
  left it in place.
-/
import proofs.«146970_j35948876268088_1_alg».proof.Proof.Gen.Kernel.Skeleton
import proofs.«146970_j35948876268088_1_alg».proof.Proof.Gen.Kernel.Points
import Idealize.ShloMosaic.Lib.Pipeline.Kit
import Idealize.ShloMosaic.Lib.Pipeline.FrameBody
import Idealize.ShloMosaic.Lib.Ring
import Idealize.ShloMosaic.Lib.Tactic

-- membership in a rectangle of these extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A conjunction over the three windows, written out window by window. -/
theorem bigSep_W8' {M : Type} [URA M] (Φ : Fin 3 → sProp M) : bigSep Finset.univ Φ = iprop(Φ (0 : Fin 3) ∗ Φ (1 : Fin 3) ∗ Φ (2 : Fin 3)) :=
  bigSep_univ_eq_bigSepL [(0 : Fin 3), (1 : Fin 3), (2 : Fin 3)] (by decide) (by decide) Φ

section Region
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- Input window 0's current staging buffer holds its block at every point, fetched there or not, for any proof
    data whose array is `V`'s (`hA`) and whose body leaves the block in place (`hafter`): where the window is not
    fetched its block index has not moved, and the previous point's block is this point's. The window is uncut
    and never idle. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

/-- Input window 1's current staging buffer likewise. -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

/-! ## The body's accesses: each staging buffer through its whole rectangle -/

abbrev r8_0 : Rect S256x2048 := Rect.unit (s := S256x2048) ![0, 0] S256x2048.size inb_S256x2048_S256x2048_0_0
abbrev r8_1 : Rect S2048x256 := Rect.unit (s := S2048x256) ![0, 0] S2048x256.size inb_S2048x256_S2048x256_0_0
abbrev r8_2 : Rect S256x256 := Rect.unit (s := S256x256) ![0, 0] S256x256.size inb_S256x256_S256x256_0_0

/-! ## What the body leaves in the output window's buffer -/

/-- Window 2's staging buffer after the body, from the input windows' blocks: its one store, of the product of
    the two loaded blocks, over the whole buffer. -/
def out8_2 (x0 : Vec F S256x2048 .f32) (x1 : Vec F S2048x256 .f32) : Vec F S256x256 .f32 :=
  View.canon [⟨r8_2, k8_pay1 (View.ld x0 r8_0) (View.ld x1 r8_1)⟩]

/-- The store's rectangle is the whole buffer, so it covers it. -/
theorem cover8_2 (p0 : Vec F S256x256 .f32) (y : S256x256.Idx) :
    ∃ pc ∈ ([⟨r8_2, p0⟩] : List (View.Piece (Elt F) S256x256 .f32)), y ∈ pc.1.set :=
  View.cover_of_tiled [⟨r8_2, p0⟩] S256x256.size (by rfl) y

/-! ## The body's triple -/

set_option maxHeartbeats 1000000 in
/-- The kernel body on whole staging memrefs, the inputs' at read contents `x0`, `x1` and the output's at anything,
    runs to the continuation holding the inputs' as they were and the output's at `out8_2 x0 x1`: the value the
    body loads from the output buffer is never used, and the store covers the buffer. -/
theorem sound_kernel8 (c : Dev nD) (E : Set ℕ) (i : grid8.Coords) (arg2 : Memref sig .tc .vmem S256x2048 .f32) (harg2 : arg2.IsWhole) (arg3 : Memref sig .tc .vmem S2048x256 .f32) (harg3 : arg3.IsWhole) (arg4 : Memref sig .tc .vmem S256x256 .f32) (harg4 : arg4.IsWhole)
    (x0 : Vec F S256x2048 .f32) (x1 : Vec F S2048x256 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out8_2 x0 x1)) -∗ K ⟨⟩))
      ⊢ wp frame (wpE (defs₀ (F := F)) Variants.none c none) E (cc8__mm_kernel_highest i arg2 harg2 arg3 harg3 arg4 harg4) K := by
  simp only [cc8__mm_kernel_highest_eq_skeleton]; unfold cc8__mm_kernel_highest_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover8_2 _)

/-! ## The pipeline's proof data -/

/-- The proof data of pipeline 8 on core `c`: the arrays as the region finds them (`V`); after the body at point
    `t` each input's buffer at its block and the output's at `out8_2` of the input blocks; the invariant the scoped
    rest and the generator register, untouched; nothing owed; the shares `q`. -/
def dat8 (q : Fin cfg8.W → PosShare TreeShare) (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => out8_2 (iblk8 V c 0 t) (iblk8 V c 1 t)
  Φ _ := Pipeline.ΦA spec8 c
  q := q
  owed _ := 0

/-- The proof data's arrays are the region-entry contents. -/
theorem A_eq8 (q : Fin cfg8.W → PosShare TreeShare) (c : Dev nD) (w : Fin cfg8.W) : (dat8 V q c).A w = V c (Pipeline.arrRef spec8 w) := by
  dsimp only [dat8]

/-- What the body leaves, window by window. -/
theorem after8_0 (q : Fin cfg8.W → PosShare TreeShare) (c : Dev nD) (t : Fin cfg8.N) : (dat8 V q c).after 0 t = iblk8 V c 0 t := by dsimp only [dat8]
theorem after8_1 (q : Fin cfg8.W → PosShare TreeShare) (c : Dev nD) (t : Fin cfg8.N) : (dat8 V q c).after 1 t = iblk8 V c 1 t := by dsimp only [dat8]
theorem after8_2 (q : Fin cfg8.W → PosShare TreeShare) (c : Dev nD) (t : Fin cfg8.N) : (dat8 V q c).after 2 t = out8_2 (iblk8 V c 0 t) (iblk8 V c 1 t) := by dsimp only [dat8]

/-- Each input's current staging buffer holds its block at every point, fetched there or not. -/
theorem before8_0 (q : Fin cfg8.W → PosShare TreeShare) (c : Dev nD) (t : Fin cfg8.N) (d) : (dat8 V q c).before 0 t d = iblk8 V c 0 t :=
  before8_0_of V (dat8 V q c) (A_eq8 V q c 0) (after8_0 V q c) t d
theorem before8_1 (q : Fin cfg8.W → PosShare TreeShare) (c : Dev nD) (t : Fin cfg8.N) (d) : (dat8 V q c).before 1 t d = iblk8 V c 1 t :=
  before8_1_of V (dat8 V q c) (A_eq8 V q c 1) (after8_1 V q c) t d

/-! ## The body obligation, at a generic point -/

/-- What the body is called with at point `t`, the windows one by one, -/
def bodyPre8 (q : Fin cfg8.W → PosShare TreeShare) (c : Dev nD) (t : Fin cfg8.N) : sProp 𝕄 :=
  iprop((dat8 V q c).Φ t.castSucc ∗ (dat8 V q c).owesAt () t.castSucc
    ∗ (∃ d, owns (c : Thread nD τ) (st8_0 t) fullShare ((dat8 V q c).before 0 t d))
    ∗ (∃ d, owns (c : Thread nD τ) (st8_1 t) fullShare ((dat8 V q c).before 1 t d))
    ∗ (∃ d, owns (c : Thread nD τ) (st8_2 t) fullShare ((dat8 V q c).before 2 t d)))

/-- and what it returns. -/
def bodyPost8 (q : Fin cfg8.W → PosShare TreeShare) (c : Dev nD) (t : Fin cfg8.N) : sProp 𝕄 :=
  iprop((dat8 V q c).Φ t.succ ∗ (dat8 V q c).owesAt () t.succ
    ∗ owns (c : Thread nD τ) (st8_0 t) fullShare ((dat8 V q c).after 0 t)
    ∗ owns (c : Thread nD τ) (st8_1 t) fullShare ((dat8 V q c).after 1 t)
    ∗ owns (c : Thread nD τ) (st8_2 t) fullShare ((dat8 V q c).after 2 t))

/-- The body at any point: the inputs' memrefs hold their blocks, so the body's triple applies; the invariant and
    the core's tallies pass through unread. -/
theorem sound_body8 (q : Fin cfg8.W → PosShare TreeShare) (c : Dev nD) (t : Fin cfg8.N) :
    bodyPre8 V q c t ⊢ wp frame (wpE (defs₀ (F := F)) Variants.none c none) Set.univ (bodyAt8 t) (fun _ => bodyPost8 V q c t) := by
  unfold bodyPre8 bodyPost8 bodyAt8
  simp only [before8_0, before8_1]
  rw [show (dat8 V q c).Φ t.succ = (dat8 V q c).Φ t.castSucc from rfl,
    show (dat8 V q c).owesAt () t.succ = (dat8 V q c).owesAt () t.castSucc from rfl,
    after8_0, after8_1, after8_2]
  iintro ⟨HΦ, Ho, ⟨%d0, H0⟩, ⟨%d1, H1⟩, ⟨%d2, H2⟩⟩
  iapply (sound_kernel8 c Set.univ _ _ _ _ _ _ _ (iblk8 V c 0 t) (iblk8 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation8 (q : Fin cfg8.W → PosShare TreeShare) (c : Dev nD) :
    BodyObligation (dat8 (F := F) V q c) (defs₀ (F := F)) Variants.none () Set.univ := fun t => by
  rw [bigSep_W8', bigSep_W8']
  exact sound_body8 V q c t

end Region

end Cert.Kernel.Hand

end
-- ==== Proof.K.Chain.lean ====
/- The run of the program's @main over its nine kernel regions and the host stretches between them.

   Between segments the thread state is "every unscoped buffer of the TensorCore held whole at a valuation, the generator
   register at some state, nothing owed". The valuations are named at the regions only: E p is what region p is entered
   from (the fold of the stretches before it over what the previous region left), X p what it leaves — its output array at
   what the write-backs of its 256×256 blocks leave, every other buffer as found. Region p's proof data are the body
   half's, at the entry contents E p; regions 1, 6 and 8 read one array through both input windows and hold it as two
   half shares. The segments are the stretches' host segments and one region segment per kernel call, in the order of the
   printed @main; the launch theorem for a list of segments then gives the run, its last valuation read at the result
   buffer and at the twelve argument arrays, which no stretch writes and no region's output window names. -/
import proofs.«146970_j35948876268088_1_alg».proof.Proof.K.LaunchD
import proofs.«146970_j35948876268088_1_alg».proof.Proof.Gen.Kernel.Skeleton
import proofs.«146970_j35948876268088_1_alg».proof.Proof.Gen.Kernel.Points
import proofs.«146970_j35948876268088_1_alg».proof.Proof.LibRegionSeg
import proofs.«146970_j35948876268088_1_alg».proof.Proof.K.Stretches
import proofs.«146970_j35948876268088_1_alg».proof.Proof.K.Shared
import proofs.«146970_j35948876268088_1_alg».proof.Proof.K.Body0
import proofs.«146970_j35948876268088_1_alg».proof.Proof.K.Body1
import proofs.«146970_j35948876268088_1_alg».proof.Proof.K.Body2
import proofs.«146970_j35948876268088_1_alg».proof.Proof.K.Body3
import proofs.«146970_j35948876268088_1_alg».proof.Proof.K.Body4
import proofs.«146970_j35948876268088_1_alg».proof.Proof.K.Body5
import proofs.«146970_j35948876268088_1_alg».proof.Proof.K.Body6
import proofs.«146970_j35948876268088_1_alg».proof.Proof.K.Body7
import proofs.«146970_j35948876268088_1_alg».proof.Proof.K.Body8
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.GenP

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Shares, and a valuation read at the TensorCore's references -/

/-- Every array at the full share (the regions whose windows sit on distinct arrays). -/
abbrev qF : Fin 3 → PosShare TreeShare := fun _ => fullShare
/-- The shared input array as its two halves, the output array whole (regions 1, 6, 8). -/
def qS : Fin 3 → PosShare TreeShare := fun | 0 => fullShare.left | 1 => fullShare.right | _ => fullShare

abbrev tcV (E : Dev nD → Valuation τ sig (Elt F)) : (c : Dev nD) → (b : Ref sig .tc) → Buf (Elt F) ((c : Thread nD τ).loc b) :=
  fun c b => E c b

/-! ## The valuations at the regions -/

/-- Core c's buffers at launch. -/
abbrev Wl : Dev nD → Valuation τ sig (Elt F) := fun c b => (s₀ m ρ).mem ((c : Dev nD), b)
/-- What region 0 is entered from. -/
abbrev E0 : Dev nD → Valuation τ sig (Elt F) := fun c => Pipeline.afterStretches st0 (Wl m ρ c)
/-- What region 0 leaves. -/
def X0 (c : Dev nD) : Valuation τ sig (Elt F) :=
  Pipeline.withArrays spec0 c (E0 m ρ c) fun w => (dat0 (tcV (E0 m ρ)) qF c).arrAt w cfg0.N
/-- What region 1 is entered from. -/
abbrev E1 : Dev nD → Valuation τ sig (Elt F) := fun c => Pipeline.afterStretches st1 (X0 m ρ c)
/-- What region 1 leaves. -/
def X1 (c : Dev nD) : Valuation τ sig (Elt F) := left1 c (E1 m ρ c) (dat1 (tcV (E1 m ρ)) qS c)
/-- What region 2 is entered from. -/
abbrev E2 : Dev nD → Valuation τ sig (Elt F) := fun c => Pipeline.afterStretches st2 (X1 m ρ c)
/-- What region 2 leaves. -/
def X2 (c : Dev nD) : Valuation τ sig (Elt F) :=
  Pipeline.withArrays spec2 c (E2 m ρ c) fun w => (dat2 (tcV (E2 m ρ)) qF c).arrAt w cfg2.N
/-- What region 3 is entered from. -/
abbrev E3 : Dev nD → Valuation τ sig (Elt F) := fun c => Pipeline.afterStretches st3 (X2 m ρ c)
/-- What region 3 leaves. -/
def X3 (c : Dev nD) : Valuation τ sig (Elt F) :=
  Pipeline.withArrays spec3 c (E3 m ρ c) fun w => (dat3 (tcV (E3 m ρ)) qF c).arrAt w cfg3.N
/-- What region 4 is entered from. -/
abbrev E4 : Dev nD → Valuation τ sig (Elt F) := fun c => Pipeline.afterStretches st4 (X3 m ρ c)
/-- What region 4 leaves. -/
def X4 (c : Dev nD) : Valuation τ sig (Elt F) :=
  Pipeline.withArrays spec4 c (E4 m ρ c) fun w => (dat4 (tcV (E4 m ρ)) qF c).arrAt w cfg4.N
/-- What region 5 is entered from. -/
abbrev E5 : Dev nD → Valuation τ sig (Elt F) := fun c => Pipeline.afterStretches st5 (X4 m ρ c)
/-- What region 5 leaves. -/
def X5 (c : Dev nD) : Valuation τ sig (Elt F) :=
  Pipeline.withArrays spec5 c (E5 m ρ c) fun w => (dat5 (tcV (E5 m ρ)) qF c).arrAt w cfg5.N
/-- What region 6 is entered from. -/
abbrev E6 : Dev nD → Valuation τ sig (Elt F) := fun c => Pipeline.afterStretches st6 (X5 m ρ c)
/-- What region 6 leaves. -/
def X6 (c : Dev nD) : Valuation τ sig (Elt F) := left6 c (E6 m ρ c) (dat6 (tcV (E6 m ρ)) qS c)
/-- What region 7 is entered from. -/
abbrev E7 : Dev nD → Valuation τ sig (Elt F) := fun c => Pipeline.afterStretches st7 (X6 m ρ c)
/-- What region 7 leaves. -/
def X7 (c : Dev nD) : Valuation τ sig (Elt F) :=
  Pipeline.withArrays spec7 c (E7 m ρ c) fun w => (dat7 (tcV (E7 m ρ)) qF c).arrAt w cfg7.N
/-- What region 8 is entered from. -/
abbrev E8 : Dev nD → Valuation τ sig (Elt F) := fun c => Pipeline.afterStretches st8 (X7 m ρ c)
/-- What region 8 leaves. -/
def X8 (c : Dev nD) : Valuation τ sig (Elt F) := left8 c (E8 m ρ c) (dat8 (tcV (E8 m ρ)) qS c)
/-- The buffers when @main returns. -/
abbrev Wend : Dev nD → Valuation τ sig (Elt F) := fun c => Pipeline.afterStretches st9 (X8 m ρ c)

/-! ## The proof data family and what rides along -/

/-- No pipeline has a prefetched table. -/
abbrev adm : (p : Fin 9) → (pcfgs (F := F) p).Adm := fun p => (cfgs p).toPCfg_adm
/-- Every pipeline's proof data, each at its region's entry contents: a literal match, so that the pinned
    configuration at a numeral reduces to the printed one. -/
def pdats : (p : Fin 9) → (c : Dev nD) → Dat τ (Elt F) Unit ℕ (UR sig nD τ) ℕ (Pipeline.pin (pcfgs (F := F)) adm p) c
  | ⟨0, _⟩ => fun c => dat0 (tcV (E0 m ρ)) qF c
  | ⟨1, _⟩ => fun c => dat1 (tcV (E1 m ρ)) qS c
  | ⟨2, _⟩ => fun c => dat2 (tcV (E2 m ρ)) qF c
  | ⟨3, _⟩ => fun c => dat3 (tcV (E3 m ρ)) qF c
  | ⟨4, _⟩ => fun c => dat4 (tcV (E4 m ρ)) qF c
  | ⟨5, _⟩ => fun c => dat5 (tcV (E5 m ρ)) qF c
  | ⟨6, _⟩ => fun c => dat6 (tcV (E6 m ρ)) qS c
  | ⟨7, _⟩ => fun c => dat7 (tcV (E7 m ρ)) qF c
  | ⟨8, _⟩ => fun c => dat8 (tcV (E8 m ρ)) qS c
abbrev 𝒱₀ : Variants := Variants.none
/-- No core owes another anything: no level is assigned. -/
abbrev L : GSem nD τ sig → Finset Unit := fun _ => ∅
abbrev lv : GSem nD τ sig → Unit → ℕ := fun _ _ => 0

/-- An output window's array is no argument array. -/
theorem out_notArg0 : ∀ w : Fin 3, (cfg0.win w).isOut = true → notArg (Pipeline.arrRef spec0 w) := by decide
theorem out_notArg1 : ∀ w : Fin 3, (cfg1.win w).isOut = true → notArg (Pipeline.arrRef spec1 w) := by decide
theorem out_notArg2 : ∀ w : Fin 3, (cfg2.win w).isOut = true → notArg (Pipeline.arrRef spec2 w) := by decide
theorem out_notArg3 : ∀ w : Fin 3, (cfg3.win w).isOut = true → notArg (Pipeline.arrRef spec3 w) := by decide
theorem out_notArg4 : ∀ w : Fin 3, (cfg4.win w).isOut = true → notArg (Pipeline.arrRef spec4 w) := by decide
theorem out_notArg5 : ∀ w : Fin 3, (cfg5.win w).isOut = true → notArg (Pipeline.arrRef spec5 w) := by decide
theorem out_notArg6 : ∀ w : Fin 3, (cfg6.win w).isOut = true → notArg (Pipeline.arrRef spec6 w) := by decide
theorem out_notArg7 : ∀ w : Fin 3, (cfg7.win w).isOut = true → notArg (Pipeline.arrRef spec7 w) := by decide
theorem out_notArg8 : ∀ w : Fin 3, (cfg8.win w).isOut = true → notArg (Pipeline.arrRef spec8 w) := by decide

/-! ## The regions as segments -/

set_option backward.isDefEq.respectTransparency.types false in
/-- Region 0: its windows sit on three distinct arrays, each held whole. -/
def reg0 : Pipeline.RegionSeg (pcfgs (F := F)) adm (pdats m ρ) () defs₀ 𝒱₀ L lv 0 :=
  Pipeline.RegionSeg.ofClassInvDistinct (pcfgs (F := F)) adm (pdats m ρ) defs₀ 𝒱₀ L lv 0 launch0.win launch0.arr_whole
    launch0.block_pos launch0.stage_whole
    (fun c => (body_obligation0 (tcV (E0 m ρ)) qF c).loose)
    (fun _ _ => rfl) (fun _ _ => rfl) (fun _ _ => rfl)
    (fun c => by unfold Pipeline.prefHeld; rw [show (Finset.univ : Finset (Fin 0)) = ∅ from rfl, BI.bigSep_empty])
    (fun c => (pdats m ρ 0 c).share_full fun _ => rfl)
    (E0 m ρ) (fun _ _ => rfl)

set_option backward.isDefEq.respectTransparency.types false in
/-- Region 1: both input windows read one array, held as its two half shares. -/
def reg1 : Pipeline.RegionSeg (pcfgs (F := F)) adm (pdats m ρ) () defs₀ 𝒱₀ L lv 1 :=
  Pipeline.RegionSeg.ofClassInv (pcfgs (F := F)) adm (pdats m ρ) defs₀ 𝒱₀ L lv 1 winFacts₀1 block_pos1 stage_whole1
    (fun c => (body_obligation1 (tcV (E1 m ρ)) qS c).loose)
    (fun _ _ => rfl) (fun _ _ => rfl) (fun _ _ => rfl)
    (fun c => by unfold Pipeline.prefHeld; rw [show (Finset.univ : Finset (Fin 0)) = ∅ from rfl, BI.bigSep_empty])
    (E1 m ρ) (X1 m ρ)
    (fun c => split1 c (dat1 (tcV (E1 m ρ)) qS c) rfl rfl (E1 m ρ c) (fun _ => rfl))
    (fun c => join1 c (dat1 (tcV (E1 m ρ)) qS c) rfl rfl (E1 m ρ c) (fun _ => rfl))

set_option backward.isDefEq.respectTransparency.types false in
/-- Region 2: its windows sit on three distinct arrays, each held whole. -/
def reg2 : Pipeline.RegionSeg (pcfgs (F := F)) adm (pdats m ρ) () defs₀ 𝒱₀ L lv 2 :=
  Pipeline.RegionSeg.ofClassInvDistinct (pcfgs (F := F)) adm (pdats m ρ) defs₀ 𝒱₀ L lv 2 launch2.win launch2.arr_whole
    launch2.block_pos launch2.stage_whole
    (fun c => (body_obligation2 (tcV (E2 m ρ)) qF c).loose)
    (fun _ _ => rfl) (fun _ _ => rfl) (fun _ _ => rfl)
    (fun c => by unfold Pipeline.prefHeld; rw [show (Finset.univ : Finset (Fin 0)) = ∅ from rfl, BI.bigSep_empty])
    (fun c => (pdats m ρ 2 c).share_full fun _ => rfl)
    (E2 m ρ) (fun _ _ => rfl)

set_option backward.isDefEq.respectTransparency.types false in
/-- Region 3: its windows sit on three distinct arrays, each held whole. -/
def reg3 : Pipeline.RegionSeg (pcfgs (F := F)) adm (pdats m ρ) () defs₀ 𝒱₀ L lv 3 :=
  Pipeline.RegionSeg.ofClassInvDistinct (pcfgs (F := F)) adm (pdats m ρ) defs₀ 𝒱₀ L lv 3 launch3.win launch3.arr_whole
    launch3.block_pos launch3.stage_whole
    (fun c => (body_obligation3 (tcV (E3 m ρ)) qF c).loose)
    (fun _ _ => rfl) (fun _ _ => rfl) (fun _ _ => rfl)
    (fun c => by unfold Pipeline.prefHeld; rw [show (Finset.univ : Finset (Fin 0)) = ∅ from rfl, BI.bigSep_empty])
    (fun c => (pdats m ρ 3 c).share_full fun _ => rfl)
    (E3 m ρ) (fun _ _ => rfl)

set_option backward.isDefEq.respectTransparency.types false in
/-- Region 4: its windows sit on three distinct arrays, each held whole. -/
def reg4 : Pipeline.RegionSeg (pcfgs (F := F)) adm (pdats m ρ) () defs₀ 𝒱₀ L lv 4 :=
  Pipeline.RegionSeg.ofClassInvDistinct (pcfgs (F := F)) adm (pdats m ρ) defs₀ 𝒱₀ L lv 4 launch4.win launch4.arr_whole
    launch4.block_pos launch4.stage_whole
    (fun c => (body_obligation4 (tcV (E4 m ρ)) qF c).loose)
    (fun _ _ => rfl) (fun _ _ => rfl) (fun _ _ => rfl)
    (fun c => by unfold Pipeline.prefHeld; rw [show (Finset.univ : Finset (Fin 0)) = ∅ from rfl, BI.bigSep_empty])
    (fun c => (pdats m ρ 4 c).share_full fun _ => rfl)
    (E4 m ρ) (fun _ _ => rfl)

set_option backward.isDefEq.respectTransparency.types false in
/-- Region 5: its windows sit on three distinct arrays, each held whole. -/
def reg5 : Pipeline.RegionSeg (pcfgs (F := F)) adm (pdats m ρ) () defs₀ 𝒱₀ L lv 5 :=
  Pipeline.RegionSeg.ofClassInvDistinct (pcfgs (F := F)) adm (pdats m ρ) defs₀ 𝒱₀ L lv 5 launch5.win launch5.arr_whole
    launch5.block_pos launch5.stage_whole
    (fun c => (body_obligation5 (tcV (E5 m ρ)) qF c).loose)
    (fun _ _ => rfl) (fun _ _ => rfl) (fun _ _ => rfl)
    (fun c => by unfold Pipeline.prefHeld; rw [show (Finset.univ : Finset (Fin 0)) = ∅ from rfl, BI.bigSep_empty])
    (fun c => (pdats m ρ 5 c).share_full fun _ => rfl)
    (E5 m ρ) (fun _ _ => rfl)

set_option backward.isDefEq.respectTransparency.types false in
/-- Region 6: both input windows read one array, held as its two half shares. -/
def reg6 : Pipeline.RegionSeg (pcfgs (F := F)) adm (pdats m ρ) () defs₀ 𝒱₀ L lv 6 :=
  Pipeline.RegionSeg.ofClassInv (pcfgs (F := F)) adm (pdats m ρ) defs₀ 𝒱₀ L lv 6 winFacts₀6 block_pos6 stage_whole6
    (fun c => (body_obligation6 (tcV (E6 m ρ)) qS c).loose)
    (fun _ _ => rfl) (fun _ _ => rfl) (fun _ _ => rfl)
    (fun c => by unfold Pipeline.prefHeld; rw [show (Finset.univ : Finset (Fin 0)) = ∅ from rfl, BI.bigSep_empty])
    (E6 m ρ) (X6 m ρ)
    (fun c => split6 c (dat6 (tcV (E6 m ρ)) qS c) rfl rfl (E6 m ρ c) (fun _ => rfl))
    (fun c => join6 c (dat6 (tcV (E6 m ρ)) qS c) rfl rfl (E6 m ρ c) (fun _ => rfl))

set_option backward.isDefEq.respectTransparency.types false in
/-- Region 7: its windows sit on three distinct arrays, each held whole. -/
def reg7 : Pipeline.RegionSeg (pcfgs (F := F)) adm (pdats m ρ) () defs₀ 𝒱₀ L lv 7 :=
  Pipeline.RegionSeg.ofClassInvDistinct (pcfgs (F := F)) adm (pdats m ρ) defs₀ 𝒱₀ L lv 7 launch7.win launch7.arr_whole
    launch7.block_pos launch7.stage_whole
    (fun c => (body_obligation7 (tcV (E7 m ρ)) qF c).loose)
    (fun _ _ => rfl) (fun _ _ => rfl) (fun _ _ => rfl)
    (fun c => by unfold Pipeline.prefHeld; rw [show (Finset.univ : Finset (Fin 0)) = ∅ from rfl, BI.bigSep_empty])
    (fun c => (pdats m ρ 7 c).share_full fun _ => rfl)
    (E7 m ρ) (fun _ _ => rfl)

set_option backward.isDefEq.respectTransparency.types false in
/-- Region 8: both input windows read one array, held as its two half shares. -/
def reg8 : Pipeline.RegionSeg (pcfgs (F := F)) adm (pdats m ρ) () defs₀ 𝒱₀ L lv 8 :=
  Pipeline.RegionSeg.ofClassInv (pcfgs (F := F)) adm (pdats m ρ) defs₀ 𝒱₀ L lv 8 winFacts₀8 block_pos8 stage_whole8
    (fun c => (body_obligation8 (tcV (E8 m ρ)) qS c).loose)
    (fun _ _ => rfl) (fun _ _ => rfl) (fun _ _ => rfl)
    (fun c => by unfold Pipeline.prefHeld; rw [show (Finset.univ : Finset (Fin 0)) = ∅ from rfl, BI.bigSep_empty])
    (E8 m ρ) (X8 m ρ)
    (fun c => split8 c (dat8 (tcV (E8 m ρ)) qS c) rfl rfl (E8 m ρ c) (fun _ => rfl))
    (fun c => join8 c (dat8 (tcV (E8 m ρ)) qS c) rfl rfl (E8 m ρ c) (fun _ => rfl))

/-! ## @main as segments -/

abbrev hs (l : List (HS F)) (W : Dev nD → Valuation τ sig (Elt F)) :
    List (Pipeline.Seg (pcfgs (F := F)) adm (pdats m ρ) () defs₀ 𝒱₀ L lv) :=
  Pipeline.hostSegs (pcfgs (F := F)) adm (pdats m ρ) defs₀ 𝒱₀ L lv l W

/-- @main's segments in order. -/
def segs : List (Pipeline.Seg (pcfgs (F := F)) adm (pdats m ρ) () defs₀ 𝒱₀ L lv) :=
  hs m ρ st0 (Wl m ρ) ++ (.region (reg0 m ρ) ::
  (hs m ρ st1 (X0 m ρ) ++ (.region (reg1 m ρ) ::
  (hs m ρ st2 (X1 m ρ) ++ (.region (reg2 m ρ) ::
  (hs m ρ st3 (X2 m ρ) ++ (.region (reg3 m ρ) ::
  (hs m ρ st4 (X3 m ρ) ++ (.region (reg4 m ρ) ::
  (hs m ρ st5 (X4 m ρ) ++ (.region (reg5 m ρ) ::
  (hs m ρ st6 (X5 m ρ) ++ (.region (reg6 m ρ) ::
  (hs m ρ st7 (X6 m ρ) ++ (.region (reg7 m ρ) ::
  (hs m ρ st8 (X7 m ρ) ++ (.region (reg8 m ρ) ::
  (hs m ρ st9 (X8 m ρ) ++ []))))))))))))))))))

/-- @main IS the run of the segments: the generated chain of @main's items against the segments' programs. -/
theorem main_run (c : Dev nD) : main (F := F) c = Pipeline.Seg.run (segs m ρ) := (main_chain c).trans (by chain_rfl)

/-- The last thread state without the owes. -/
abbrev Tₙ (c : Dev nD) : sProp 𝕄 := iprop(StableHlo.held (c : Thread nD τ) (Pipeline.ucRefs τ sig) (Wend m ρ c) ∗ ∃ r, prngReg c r)

set_option backward.isDefEq.respectTransparency.types false in
/-- The segments' thread states chain from the launch's to the last. -/
theorem segs_chain : Pipeline.Seg.Chains (fun c => iprop(StableHlo.held (c : Thread nD τ) (Pipeline.ucRefs τ sig) (Wl m ρ c) ∗ Pipeline.besideBufs (U := UR sig nD τ) c))
    (segs m ρ) (fun c => iprop(Tₙ m ρ c ∗ ∃ W, owes (c : Thread nD τ) (0 : CellTallies nD τ sig Unit) W)) := by
  unfold segs
  refine Pipeline.chains_hostSegs _ _ _ _ _ _ _ st0 _ _ _ ⟨fun _ => .rfl, ?_⟩
  refine Pipeline.chains_hostSegs _ _ _ _ _ _ _ st1 _ _ _ ⟨fun _ => .rfl, ?_⟩
  refine Pipeline.chains_hostSegs _ _ _ _ _ _ _ st2 _ _ _ ⟨fun _ => .rfl, ?_⟩
  refine Pipeline.chains_hostSegs _ _ _ _ _ _ _ st3 _ _ _ ⟨fun _ => .rfl, ?_⟩
  refine Pipeline.chains_hostSegs _ _ _ _ _ _ _ st4 _ _ _ ⟨fun _ => .rfl, ?_⟩
  refine Pipeline.chains_hostSegs _ _ _ _ _ _ _ st5 _ _ _ ⟨fun _ => .rfl, ?_⟩
  refine Pipeline.chains_hostSegs _ _ _ _ _ _ _ st6 _ _ _ ⟨fun _ => .rfl, ?_⟩
  refine Pipeline.chains_hostSegs _ _ _ _ _ _ _ st7 _ _ _ ⟨fun _ => .rfl, ?_⟩
  refine Pipeline.chains_hostSegs _ _ _ _ _ _ _ st8 _ _ _ ⟨fun _ => .rfl, ?_⟩
  refine Pipeline.chains_hostSegs _ _ _ _ _ _ _ st9 _ _ _ ?_
  intro c
  iintro ⟨Hh, Hp, HO⟩
  isplitl [Hh Hp]
  · isplitl [Hh] <;> iassumption
  iexact HO

/-! ## The arguments end as launched -/

set_option maxHeartbeats 4000000 in
/-- An argument array's buffer holds at the end what it held at launch: no stretch writes it, and no region's
    output window names it. -/
theorem Wend_arg (c : Dev nD) (r : Ref sig .tc) (hr : ¬ notArg r) : Wend m ρ c (Proc.devRef .tc r) = m ((c : Thread nD τ).loc r) := by
  have hst : ∀ (l : List (HS F)) (V : Valuation τ sig (Elt F)), Pipeline.afterStretches l V (Proc.devRef .tc r) = V (Proc.devRef .tc r) :=
    fun l V => Pipeline.afterStretches_spared hr l V
  have hx8 : X8 m ρ c (Proc.devRef .tc r) = E8 m ρ c (Proc.devRef .tc r) := by
    unfold X8
    exact Pipeline.withArrays_of_ne (fun _ : Fin 1 => spec8 2) c _ _ r fun _ e => hr (e ▸ out_notArg8 2 rfl)
  have hx7 : X7 m ρ c (Proc.devRef .tc r) = E7 m ρ c (Proc.devRef .tc r) := by
    unfold X7
    exact Pipeline.withArrays_arrAt_spared (dat7 (tcV (E7 m ρ)) qF c) launch7.win.arr_inj (E7 m ρ c) (fun _ => rfl) r
      fun w hw e => hr (e ▸ out_notArg7 w hw)
  have hx6 : X6 m ρ c (Proc.devRef .tc r) = E6 m ρ c (Proc.devRef .tc r) := by
    unfold X6
    exact Pipeline.withArrays_of_ne (fun _ : Fin 1 => spec6 2) c _ _ r fun _ e => hr (e ▸ out_notArg6 2 rfl)
  have hx5 : X5 m ρ c (Proc.devRef .tc r) = E5 m ρ c (Proc.devRef .tc r) := by
    unfold X5
    exact Pipeline.withArrays_arrAt_spared (dat5 (tcV (E5 m ρ)) qF c) launch5.win.arr_inj (E5 m ρ c) (fun _ => rfl) r
      fun w hw e => hr (e ▸ out_notArg5 w hw)
  have hx4 : X4 m ρ c (Proc.devRef .tc r) = E4 m ρ c (Proc.devRef .tc r) := by
    unfold X4
    exact Pipeline.withArrays_arrAt_spared (dat4 (tcV (E4 m ρ)) qF c) launch4.win.arr_inj (E4 m ρ c) (fun _ => rfl) r
      fun w hw e => hr (e ▸ out_notArg4 w hw)
  have hx3 : X3 m ρ c (Proc.devRef .tc r) = E3 m ρ c (Proc.devRef .tc r) := by
    unfold X3
    exact Pipeline.withArrays_arrAt_spared (dat3 (tcV (E3 m ρ)) qF c) launch3.win.arr_inj (E3 m ρ c) (fun _ => rfl) r
      fun w hw e => hr (e ▸ out_notArg3 w hw)
  have hx2 : X2 m ρ c (Proc.devRef .tc r) = E2 m ρ c (Proc.devRef .tc r) := by
    unfold X2
    exact Pipeline.withArrays_arrAt_spared (dat2 (tcV (E2 m ρ)) qF c) launch2.win.arr_inj (E2 m ρ c) (fun _ => rfl) r
      fun w hw e => hr (e ▸ out_notArg2 w hw)
  have hx1 : X1 m ρ c (Proc.devRef .tc r) = E1 m ρ c (Proc.devRef .tc r) := by
    unfold X1
    exact Pipeline.withArrays_of_ne (fun _ : Fin 1 => spec1 2) c _ _ r fun _ e => hr (e ▸ out_notArg1 2 rfl)
  have hx0 : X0 m ρ c (Proc.devRef .tc r) = E0 m ρ c (Proc.devRef .tc r) := by
    unfold X0
    exact Pipeline.withArrays_arrAt_spared (dat0 (tcV (E0 m ρ)) qF c) launch0.win.arr_inj (E0 m ρ c) (fun _ => rfl) r
      fun w hw e => hr (e ▸ out_notArg0 w hw)
  exact (hst st9 _).trans <| hx8.trans <| (hst st8 _).trans <| hx7.trans <| (hst st7 _).trans <| hx6.trans <| (hst st6 _).trans <|
    hx5.trans <| (hst st5 _).trans <| hx4.trans <| (hst st4 _).trans <| hx3.trans <| (hst st3 _).trans <| hx2.trans <|
    (hst st2 _).trans <| hx1.trans <| (hst st1 _).trans <| hx0.trans <| (hst st0 _).trans rfl

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The run -/

set_option backward.isDefEq.respectTransparency.types false in
/-- THE RUN, at any F: from any memory with zero counters, every weakly fair execution of @main on the TensorCores
    terminates, nothing faulting, and every final state has the result buffer at the last valuation and the twelve
    argument arrays as launched. -/
theorem run : θ_run defs (onTc (τ := τ) (main (F := F))) ⟨m, fun _ => 0, ρ⟩ (fun r => ∀ c : Dev nD,
      r.2.mem ((c.tc : Thread nD τ).loc main_v796) = Wend m ρ c (Proc.devRef .tc main_v796)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by
      unfold segs
      simp only [hs, Pipeline.pipes_hostSegs, Pipeline.Seg.pipes_region, Pipeline.Seg.pipes_nil]
      decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Wl m ρ c) ∗ Pipeline.besideBufs (U := UR sig nD τ) c)) (Tₙ := Tₙ m ρ)
    (hch := segs_chain m ρ)
    (hinit := by
      refine Pipeline.initEach L lv fun c => ?_
      rw [show unscopedBufs c (fun b => m ((c : Thread nD τ).loc b)) = StableHlo.held (c : Thread nD τ) (Pipeline.ucRefs τ sig) (Wl m ρ c)
        from Pipeline.unscopedBufs_held c (Wl m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wend m ρ c b)
    (hfin := fun c s' => by
      iintro ⟨⟨Hh, -⟩, HSI⟩
      unfold StableHlo.held
      imodintro
      iapply (pointsTo_read_all (Pipeline.ucRefs τ sig) (fun b => (((c : Thread nD τ)).1, b)) (Wend m ρ c) s')
      isplitl [Hh] <;> iassumption)
    (hQ := fun s h c =>
      ⟨h c _ (mem_uc main_v796 (by decide)),
       (h c _ (mem_uc main_arg0 (by decide))).trans (Wend_arg m ρ c main_arg0 (by decide)),
       (h c _ (mem_uc main_arg1 (by decide))).trans (Wend_arg m ρ c main_arg1 (by decide)),
       (h c _ (mem_uc main_arg2 (by decide))).trans (Wend_arg m ρ c main_arg2 (by decide)),
       (h c _ (mem_uc main_arg3 (by decide))).trans (Wend_arg m ρ c main_arg3 (by decide)),
       (h c _ (mem_uc main_arg4 (by decide))).trans (Wend_arg m ρ c main_arg4 (by decide)),
       (h c _ (mem_uc main_arg5 (by decide))).trans (Wend_arg m ρ c main_arg5 (by decide)),
       (h c _ (mem_uc main_arg6 (by decide))).trans (Wend_arg m ρ c main_arg6 (by decide)),
       (h c _ (mem_uc main_arg7 (by decide))).trans (Wend_arg m ρ c main_arg7 (by decide)),
       (h c _ (mem_uc main_arg8 (by decide))).trans (Wend_arg m ρ c main_arg8 (by decide)),
       (h c _ (mem_uc main_arg9 (by decide))).trans (Wend_arg m ρ c main_arg9 (by decide)),
       (h c _ (mem_uc main_arg10 (by decide))).trans (Wend_arg m ρ c main_arg10 (by decide)),
       (h c _ (mem_uc main_arg11 (by decide))).trans (Wend_arg m ρ c main_arg11 (by decide))⟩)

end Cert.Kernel.Hand

end
-- ==== Proof.FrameK.lean ====
/- The word-level program's frame: its run over the nine regions and the host stretches, with the result dropped. -/
import proofs.«146970_j35948876268088_1_alg».proof.Defs
import proofs.«146970_j35948876268088_1_alg».proof.Proof.Gen.Kernel
import proofs.«146970_j35948876268088_1_alg».proof.Proof.Gen.Pre_finite_inputs
import proofs.«146970_j35948876268088_1_alg».proof.Proof.K.Chain

noncomputable section

namespace Cert.Proof

open Idealize.ShloMosaic Idealize.SL.Sem

theorem frame_k : Cert.frame_Kernel (hKernel := Cert.Kernel.Gen.facts) (hPre_finite_inputs := Cert.Pre_finite_inputs.Gen.facts) := fun m ρ _ =>
  (θ_run (Cert.Kernel.defs (F := Bits)) _ _).mono (fun _ h c => (h c).2) (Cert.Kernel.Hand.run (F := Bits) m ρ)

end Cert.Proof

end
-- ==== Proof.KI.Stretches.lean ====
/- The host stretches of the program's @main, one record each (its operations name TensorCore buffers only, allocate
   nothing, and write no argument array), grouped into the ten lists that lie before, between and after the nine kernel
   regions. The rows follow the item list of the generated main_chain; written by: bun scratch/stretches.js KernelIdeal KI -/
import proofs.«146970_j35948876268088_1_alg».proof.Proof.KI.LaunchB2
import proofs.«146970_j35948876268088_1_alg».proof.Proof.LibRegionSeg

set_option maxRecDepth 16384

noncomputable section

namespace Cert.KernelIdeal.Hand

open Idealize.ShloMosaic Idealize.ShloMosaic.TcCoe Idealize.SL.Sem
open Cert.KernelIdeal Cert.KernelIdeal.Gen Cert.KernelIdeal.GenP

variable {F : FTy → Type} [FloatOps F]

/-- The references a host operation may write: every TensorCore reference but the twelve argument arrays, which are
    the first twelve buffers of HBM. -/
def notArg (y : Ref sig .tc) : Prop := y.space ≠ .hbm ∨ 12 ≤ y.idx.val

instance : DecidablePred notArg := fun y => inferInstanceAs (Decidable (y.space ≠ .hbm ∨ 12 ≤ y.idx.val))

/-- No operation of a listed stretch allocates: each conjunct is an equation between literals. -/
macro "host_fresh" : tactic => `(tactic| (simp only [List.Forall]; repeat' constructor))

/-- Each operation of a listed stretch writes one buffer, named by a reference that is no argument: the writes of
    every kind of operation are a singleton, and the reference's space and index are literals. -/
macro "host_spares" : tactic => `(tactic| (
  simp only [List.Forall, StableHlo.nullary_writes, StableHlo.unary_writes, StableHlo.binary_writes, StableHlo.ternary_writes,
    StableHlo.quaternary_writes, StableHlo.reshape_writes, StableHlo.binaryIndexed_writes, StableHlo.unaryIndexed_writes,
    StableHlo.nary_writes, Finset.mem_singleton, forall_eq]
  repeat' apply And.intro
  all_goals exact ⟨_, rfl, by decide⟩))

abbrev HS (F : FTy → Type) [FloatOps F] := Pipeline.HostStretch τ sig (Elt F) notArg

def s0 : HS F := ⟨hostOps0, hostOps0_sub, by host_fresh, by host_spares⟩
def s1 : HS F := ⟨hostOps1, hostOps1_sub, by host_fresh, by host_spares⟩
def s2 : HS F := ⟨hostOps2, hostOps2_sub, by host_fresh, by host_spares⟩
def s3 : HS F := ⟨hostOps3, hostOps3_sub, by host_fresh, by host_spares⟩
def s4 : HS F := ⟨hostOps4, hostOps4_sub, by host_fresh, by host_spares⟩
def s5 : HS F := ⟨hostOps5, hostOps5_sub, by host_fresh, by host_spares⟩
def s6 : HS F := ⟨hostOps6, hostOps6_sub, by host_fresh, by host_spares⟩
def s6_1 : HS F := ⟨hostOps6_1, hostOps6_1_sub, by host_fresh, by host_spares⟩
def s6_2 : HS F := ⟨hostOps6_2, hostOps6_2_sub, by host_fresh, by host_spares⟩
def s7 : HS F := ⟨hostOps7, hostOps7_sub, by host_fresh, by host_spares⟩
def s7_1 : HS F := ⟨hostOps7_1, hostOps7_1_sub, by host_fresh, by host_spares⟩
def s7_2 : HS F := ⟨hostOps7_2, hostOps7_2_sub, by host_fresh, by host_spares⟩
def s7_3 : HS F := ⟨hostOps7_3, hostOps7_3_sub, by host_fresh, by host_spares⟩
def s7_4 : HS F := ⟨hostOps7_4, hostOps7_4_sub, by host_fresh, by host_spares⟩
def s7_5 : HS F := ⟨hostOps7_5, hostOps7_5_sub, by host_fresh, by host_spares⟩
def s7_6 : HS F := ⟨hostOps7_6, hostOps7_6_sub, by host_fresh, by host_spares⟩
def s7_7 : HS F := ⟨hostOps7_7, hostOps7_7_sub, by host_fresh, by host_spares⟩
def s7_8 : HS F := ⟨hostOps7_8, hostOps7_8_sub, by host_fresh, by host_spares⟩
def s7_9 : HS F := ⟨hostOps7_9, hostOps7_9_sub, by host_fresh, by host_spares⟩
def s7_10 : HS F := ⟨hostOps7_10, hostOps7_10_sub, by host_fresh, by host_spares⟩
def s7_11 : HS F := ⟨hostOps7_11, hostOps7_11_sub, by host_fresh, by host_spares⟩
def s7_12 : HS F := ⟨hostOps7_12, hostOps7_12_sub, by host_fresh, by host_spares⟩
def s7_13 : HS F := ⟨hostOps7_13, hostOps7_13_sub, by host_fresh, by host_spares⟩
def s7_14 : HS F := ⟨hostOps7_14, hostOps7_14_sub, by host_fresh, by host_spares⟩
def s7_15 : HS F := ⟨hostOps7_15, hostOps7_15_sub, by host_fresh, by host_spares⟩
def s7_16 : HS F := ⟨hostOps7_16, hostOps7_16_sub, by host_fresh, by host_spares⟩
def s7_17 : HS F := ⟨hostOps7_17, hostOps7_17_sub, by host_fresh, by host_spares⟩
def s7_18 : HS F := ⟨hostOps7_18, hostOps7_18_sub, by host_fresh, by host_spares⟩
def s7_19 : HS F := ⟨hostOps7_19, hostOps7_19_sub, by host_fresh, by host_spares⟩
def s7_20 : HS F := ⟨hostOps7_20, hostOps7_20_sub, by host_fresh, by host_spares⟩
def s7_21 : HS F := ⟨hostOps7_21, hostOps7_21_sub, by host_fresh, by host_spares⟩
def s7_22 : HS F := ⟨hostOps7_22, hostOps7_22_sub, by host_fresh, by host_spares⟩
def s7_23 : HS F := ⟨hostOps7_23, hostOps7_23_sub, by host_fresh, by host_spares⟩
def s7_24 : HS F := ⟨hostOps7_24, hostOps7_24_sub, by host_fresh, by host_spares⟩
def s7_25 : HS F := ⟨hostOps7_25, hostOps7_25_sub, by host_fresh, by host_spares⟩
def s7_26 : HS F := ⟨hostOps7_26, hostOps7_26_sub, by host_fresh, by host_spares⟩
def s7_27 : HS F := ⟨hostOps7_27, hostOps7_27_sub, by host_fresh, by host_spares⟩
def s7_28 : HS F := ⟨hostOps7_28, hostOps7_28_sub, by host_fresh, by host_spares⟩
def s7_29 : HS F := ⟨hostOps7_29, hostOps7_29_sub, by host_fresh, by host_spares⟩
def s7_30 : HS F := ⟨hostOps7_30, hostOps7_30_sub, by host_fresh, by host_spares⟩
def s7_31 : HS F := ⟨hostOps7_31, hostOps7_31_sub, by host_fresh, by host_spares⟩
def s7_32 : HS F := ⟨hostOps7_32, hostOps7_32_sub, by host_fresh, by host_spares⟩
def s7_33 : HS F := ⟨hostOps7_33, hostOps7_33_sub, by host_fresh, by host_spares⟩
def s7_34 : HS F := ⟨hostOps7_34, hostOps7_34_sub, by host_fresh, by host_spares⟩
def s7_35 : HS F := ⟨hostOps7_35, hostOps7_35_sub, by host_fresh, by host_spares⟩
def s7_36 : HS F := ⟨hostOps7_36, hostOps7_36_sub, by host_fresh, by host_spares⟩
def s7_37 : HS F := ⟨hostOps7_37, hostOps7_37_sub, by host_fresh, by host_spares⟩
def s7_38 : HS F := ⟨hostOps7_38, hostOps7_38_sub, by host_fresh, by host_spares⟩
def s7_39 : HS F := ⟨hostOps7_39, hostOps7_39_sub, by host_fresh, by host_spares⟩
def s7_40 : HS F := ⟨hostOps7_40, hostOps7_40_sub, by host_fresh, by host_spares⟩
def s7_41 : HS F := ⟨hostOps7_41, hostOps7_41_sub, by host_fresh, by host_spares⟩
def s7_42 : HS F := ⟨hostOps7_42, hostOps7_42_sub, by host_fresh, by host_spares⟩
def s7_43 : HS F := ⟨hostOps7_43, hostOps7_43_sub, by host_fresh, by host_spares⟩
def s7_44 : HS F := ⟨hostOps7_44, hostOps7_44_sub, by host_fresh, by host_spares⟩
def s7_45 : HS F := ⟨hostOps7_45, hostOps7_45_sub, by host_fresh, by host_spares⟩
def s7_46 : HS F := ⟨hostOps7_46, hostOps7_46_sub, by host_fresh, by host_spares⟩
def s7_47 : HS F := ⟨hostOps7_47, hostOps7_47_sub, by host_fresh, by host_spares⟩
def s7_48 : HS F := ⟨hostOps7_48, hostOps7_48_sub, by host_fresh, by host_spares⟩
def s7_49 : HS F := ⟨hostOps7_49, hostOps7_49_sub, by host_fresh, by host_spares⟩
def s7_50 : HS F := ⟨hostOps7_50, hostOps7_50_sub, by host_fresh, by host_spares⟩
def s8 : HS F := ⟨hostOps8, hostOps8_sub, by host_fresh, by host_spares⟩
def s8_1 : HS F := ⟨hostOps8_1, hostOps8_1_sub, by host_fresh, by host_spares⟩
def s8_2 : HS F := ⟨hostOps8_2, hostOps8_2_sub, by host_fresh, by host_spares⟩
def s9 : HS F := ⟨hostOps9, hostOps9_sub, by host_fresh, by host_spares⟩
def s9_1 : HS F := ⟨hostOps9_1, hostOps9_1_sub, by host_fresh, by host_spares⟩
def s9_2 : HS F := ⟨hostOps9_2, hostOps9_2_sub, by host_fresh, by host_spares⟩
def s9_3 : HS F := ⟨hostOps9_3, hostOps9_3_sub, by host_fresh, by host_spares⟩
def s9_4 : HS F := ⟨hostOps9_4, hostOps9_4_sub, by host_fresh, by host_spares⟩
def s9_5 : HS F := ⟨hostOps9_5, hostOps9_5_sub, by host_fresh, by host_spares⟩
def s9_6 : HS F := ⟨hostOps9_6, hostOps9_6_sub, by host_fresh, by host_spares⟩
def s9_7 : HS F := ⟨hostOps9_7, hostOps9_7_sub, by host_fresh, by host_spares⟩
def s9_8 : HS F := ⟨hostOps9_8, hostOps9_8_sub, by host_fresh, by host_spares⟩
def s9_9 : HS F := ⟨hostOps9_9, hostOps9_9_sub, by host_fresh, by host_spares⟩
def s9_10 : HS F := ⟨hostOps9_10, hostOps9_10_sub, by host_fresh, by host_spares⟩
def s9_11 : HS F := ⟨hostOps9_11, hostOps9_11_sub, by host_fresh, by host_spares⟩

/-- The stretches before region 0. -/
def st0 : List (HS F) := [s0]
/-- The stretches between regions 0 and 1. -/
def st1 : List (HS F) := [s1]
/-- The stretches between regions 1 and 2. -/
def st2 : List (HS F) := [s2]
/-- The stretches between regions 2 and 3. -/
def st3 : List (HS F) := [s3]
/-- The stretches between regions 3 and 4. -/
def st4 : List (HS F) := [s4]
/-- The stretches between regions 4 and 5. -/
def st5 : List (HS F) := [s5]
/-- The stretches between regions 5 and 6. -/
def st6 : List (HS F) := [s6, s6_1, s6_2]
/-- The stretches between regions 6 and 7. -/
def st7 : List (HS F) := [s7, s7_1, s7_2, s7_3, s7_4, s7_5, s7_6, s7_7, s7_8, s7_9, s7_10, s7_11, s7_12, s7_13, s7_14, s7_15, s7_16, s7_17, s7_18, s7_19, s7_20, s7_21, s7_22, s7_23, s7_24, s7_25, s7_26, s7_27, s7_28, s7_29, s7_30, s7_31, s7_32, s7_33, s7_34, s7_35, s7_36, s7_37, s7_38, s7_39, s7_40, s7_41, s7_42, s7_43, s7_44, s7_45, s7_46, s7_47, s7_48, s7_49, s7_50]
/-- The stretches between regions 7 and 8. -/
def st8 : List (HS F) := [s8, s8_1, s8_2]
/-- The stretches after region 8. -/
def st9 : List (HS F) := [s9, s9_1, s9_2, s9_3, s9_4, s9_5, s9_6, s9_7, s9_8, s9_9, s9_10, s9_11]

end Cert.KernelIdeal.Hand

end
-- ==== Proof.KI.Shared.lean ====
/- The regions whose two input windows read ONE array (edge·edge, H·H): how the thread state's unscoped buffers yield
   the region's per-window points-tos at entry, and are recovered from them at exit. The array's full share is dealt
   to the two input windows as its left and right halves and collected again at exit; the output window's array is
   held whole throughout and ends at what the write-backs leave. Stated for ANY proof data of the region's
   configuration whose input shares are those halves and whose entry contents are read off the valuation. -/
import proofs.«146970_j35948876268088_1_alg».proof.Proof.KI.LaunchA
import proofs.«146970_j35948876268088_1_alg».proof.Proof.LibRegionSeg

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window)
open Cert.KernelIdeal Cert.KernelIdeal.Gen Cert.KernelIdeal.GenP

variable {F : FTy → Type} [FloatOps F]

local notation "𝕄" => MT nD τ sig Unit (Elt F) ℕ (UR sig nD τ) ℕ

/-! ## Region 1: both input windows read main_v20; the output window writes main_v21 -/

/-- The two buffers behind region 1's three windows. -/
theorem arrImage1 : Finset.univ.image (Pipeline.arrRef spec1) = ({main_v20, main_v21} : Finset (Ref sig .tc)) := by decide

set_option maxHeartbeats 40000000 in
/-- ENTRY. The unscoped buffers at W yield the region's points-tos: the shared input array's full share is dealt to the
    two input windows (left half, right half), the output array goes to its window whole. -/
theorem split1 (c : Dev nD) (dat : Dat τ (Elt F) Unit ℕ (UR sig nD τ) ℕ cfg1 c)
    (hq0 : dat.q 0 = fullShare.left) (hq1 : dat.q 1 = fullShare.right)
    (W : Valuation τ sig (Elt F)) (hA : ∀ w, dat.A w = W (Pipeline.arrRef spec1 w)) :
    (StableHlo.held (c : Thread nD τ) (Pipeline.ucRefs τ sig) W : sProp 𝕄)
      ⊢ iprop(dat.arrays (dat.arrAt · 0) ∗ Pipeline.unscopedRest spec1 c (Pipeline.tcVals c W)) := by
  rw [← Pipeline.unscopedBufs_held, Pipeline.unscopedBufs_split₀ cfgs 1 winFacts₀1.arr_unscoped c (Pipeline.tcVals c W)]
  refine sep_mono ?_ .rfl
  show (Pipeline.arrBufs spec1 c _ : sProp 𝕄) ⊢ _
  unfold Pipeline.arrBufs Dat.arrays
  rw [arrImage1, BI.bigSep_insert (by decide), BI.bigSep_singleton, bigSep_W1]
  have h0 : dat.arrAt 0 0 = W (Pipeline.arrRef spec1 0) := hA 0
  have h1 : dat.arrAt 1 0 = W (Pipeline.arrRef spec1 1) := hA 1
  have h2 : dat.arrAt 2 0 = W (Pipeline.arrRef spec1 2) := hA 2
  have hs0 : (cfg1.win 0).arr.view.set = Finset.univ := (arr_whole1 0).set_eq_univ
  have hs2 : (cfg1.win 2).arr.view.set = Finset.univ := (arr_whole1 2).set_eq_univ
  beta_reduce
  rw [h0, h1, h2, hs0, hs2,
    show dat.share 0 = fullShare.left from hq0, show dat.share 1 = fullShare.right from hq1,
    show dat.share 2 = fullShare from rfl]
  exact (sep_mono (pointsTo_share (PosShare.mem_left_op_right fullShare)).1 .rfl).trans sep_assoc

/-- The valuation region 1 leaves: its output array at what the write-backs leave, every other buffer as found. -/
abbrev left1 (c : Dev nD) (W : Valuation τ sig (Elt F)) (dat : Dat τ (Elt F) Unit ℕ (UR sig nD τ) ℕ cfg1 c) : Valuation τ sig (Elt F) :=
  Pipeline.withArrays (fun _ : Fin 1 => spec1 2) c W fun _ => dat.arrAt 2 cfg1.N

set_option maxHeartbeats 40000000 in
/-- EXIT. The region's points-tos at what the write-backs leave, beside the other unscoped buffers, are the unscoped
    buffers at the exit valuation: the two halves of the shared input array are collected again (an input array is
    never written), the output array holds the write-backs' result. -/
theorem join1 (c : Dev nD) (dat : Dat τ (Elt F) Unit ℕ (UR sig nD τ) ℕ cfg1 c)
    (hq0 : dat.q 0 = fullShare.left) (hq1 : dat.q 1 = fullShare.right)
    (W : Valuation τ sig (Elt F)) (hA : ∀ w, dat.A w = W (Pipeline.arrRef spec1 w)) :
    iprop(dat.arrays (dat.arrAt · cfg1.N) ∗ Pipeline.unscopedRest spec1 c (Pipeline.tcVals c W))
      ⊢ (StableHlo.held (c : Thread nD τ) (Pipeline.ucRefs τ sig) (left1 c W dat) : sProp 𝕄) := by
  rw [← Pipeline.unscopedBufs_held, Pipeline.unscopedBufs_split₀ cfgs 1 winFacts₀1.arr_unscoped c (Pipeline.tcVals c (left1 c W dat))]
  have hin : ∀ b : Ref sig .tc, b ≠ main_v21 → left1 c W dat (Proc.devRef .tc b) = W (Proc.devRef .tc b) := fun b hb =>
    Pipeline.withArrays_of_ne (fun _ : Fin 1 => spec1 2) c W _ b fun _ e => hb e.symm
  have hout : left1 c W dat (Proc.devRef .tc main_v21) = dat.arrAt 2 cfg1.N :=
    Pipeline.withArrays_arr (fun _ : Fin 1 => spec1 2) (fun _ _ _ => Subsingleton.elim _ _) c W _ 0
  refine sep_mono ?_ (Entails.of_eq ?_)
  · show _ ⊢ (Pipeline.arrBufs spec1 c _ : sProp 𝕄)
    unfold Pipeline.arrBufs Dat.arrays
    rw [arrImage1, BI.bigSep_insert (by decide), BI.bigSep_singleton, bigSep_W1]
    have h0 : dat.arrAt 0 cfg1.N = W (Pipeline.arrRef spec1 0) := (dat.arrAt_in 0 rfl _).trans (hA 0)
    have h1 : dat.arrAt 1 cfg1.N = W (Pipeline.arrRef spec1 1) := (dat.arrAt_in 1 rfl _).trans (hA 1)
    have hs0 : (cfg1.win 0).arr.view.set = Finset.univ := (arr_whole1 0).set_eq_univ
    have hs2 : (cfg1.win 2).arr.view.set = Finset.univ := (arr_whole1 2).set_eq_univ
    beta_reduce
    rw [h0, h1, hs0, hs2,
      show dat.share 0 = fullShare.left from hq0, show dat.share 1 = fullShare.right from hq1,
      show dat.share 2 = fullShare from rfl]
    rw [show Pipeline.tcVals c (left1 c W dat) main_v20 = W (Proc.devRef .tc main_v20) from hin main_v20 (by decide),
      show Pipeline.tcVals c (left1 c W dat) main_v21 = dat.arrAt 2 cfg1.N from hout]
    exact sep_assoc'.trans (sep_mono (pointsTo_share (PosShare.mem_left_op_right fullShare)).2 .rfl)
  · show Pipeline.unscopedRest spec1 c _ = Pipeline.unscopedRest spec1 c _
    unfold Pipeline.unscopedRest
    refine bigSep_congr fun b hb => ?_
    have hb' : b ≠ main_v21 := fun e => (Finset.mem_sdiff.mp hb).2 (by rw [arrImage1, e]; decide)
    rw [show Pipeline.tcVals c (left1 c W dat) b = W (Proc.devRef .tc b) from hin b hb']

/-! ## Region 6: both input windows read main_v24; the output window writes main_v189 -/

/-- The two buffers behind region 6's three windows. -/
theorem arrImage6 : Finset.univ.image (Pipeline.arrRef spec6) = ({main_v24, main_v189} : Finset (Ref sig .tc)) := by decide

set_option maxHeartbeats 40000000 in
/-- ENTRY. The unscoped buffers at W yield the region's points-tos: the shared input array's full share is dealt to the
    two input windows (left half, right half), the output array goes to its window whole. -/
theorem split6 (c : Dev nD) (dat : Dat τ (Elt F) Unit ℕ (UR sig nD τ) ℕ cfg6 c)
    (hq0 : dat.q 0 = fullShare.left) (hq1 : dat.q 1 = fullShare.right)
    (W : Valuation τ sig (Elt F)) (hA : ∀ w, dat.A w = W (Pipeline.arrRef spec6 w)) :
    (StableHlo.held (c : Thread nD τ) (Pipeline.ucRefs τ sig) W : sProp 𝕄)
      ⊢ iprop(dat.arrays (dat.arrAt · 0) ∗ Pipeline.unscopedRest spec6 c (Pipeline.tcVals c W)) := by
  rw [← Pipeline.unscopedBufs_held, Pipeline.unscopedBufs_split₀ cfgs 6 winFacts₀6.arr_unscoped c (Pipeline.tcVals c W)]
  refine sep_mono ?_ .rfl
  show (Pipeline.arrBufs spec6 c _ : sProp 𝕄) ⊢ _
  unfold Pipeline.arrBufs Dat.arrays
  rw [arrImage6, BI.bigSep_insert (by decide), BI.bigSep_singleton, bigSep_W6]
  have h0 : dat.arrAt 0 0 = W (Pipeline.arrRef spec6 0) := hA 0
  have h1 : dat.arrAt 1 0 = W (Pipeline.arrRef spec6 1) := hA 1
  have h2 : dat.arrAt 2 0 = W (Pipeline.arrRef spec6 2) := hA 2
  have hs0 : (cfg6.win 0).arr.view.set = Finset.univ := (arr_whole6 0).set_eq_univ
  have hs2 : (cfg6.win 2).arr.view.set = Finset.univ := (arr_whole6 2).set_eq_univ
  beta_reduce
  rw [h0, h1, h2, hs0, hs2,
    show dat.share 0 = fullShare.left from hq0, show dat.share 1 = fullShare.right from hq1,
    show dat.share 2 = fullShare from rfl]
  exact (sep_mono (pointsTo_share (PosShare.mem_left_op_right fullShare)).1 .rfl).trans sep_assoc

/-- The valuation region 6 leaves: its output array at what the write-backs leave, every other buffer as found. -/
abbrev left6 (c : Dev nD) (W : Valuation τ sig (Elt F)) (dat : Dat τ (Elt F) Unit ℕ (UR sig nD τ) ℕ cfg6 c) : Valuation τ sig (Elt F) :=
  Pipeline.withArrays (fun _ : Fin 1 => spec6 2) c W fun _ => dat.arrAt 2 cfg6.N

set_option maxHeartbeats 40000000 in
/-- EXIT. The region's points-tos at what the write-backs leave, beside the other unscoped buffers, are the unscoped
    buffers at the exit valuation: the two halves of the shared input array are collected again (an input array is
    never written), the output array holds the write-backs' result. -/
theorem join6 (c : Dev nD) (dat : Dat τ (Elt F) Unit ℕ (UR sig nD τ) ℕ cfg6 c)
    (hq0 : dat.q 0 = fullShare.left) (hq1 : dat.q 1 = fullShare.right)
    (W : Valuation τ sig (Elt F)) (hA : ∀ w, dat.A w = W (Pipeline.arrRef spec6 w)) :
    iprop(dat.arrays (dat.arrAt · cfg6.N) ∗ Pipeline.unscopedRest spec6 c (Pipeline.tcVals c W))
      ⊢ (StableHlo.held (c : Thread nD τ) (Pipeline.ucRefs τ sig) (left6 c W dat) : sProp 𝕄) := by
  rw [← Pipeline.unscopedBufs_held, Pipeline.unscopedBufs_split₀ cfgs 6 winFacts₀6.arr_unscoped c (Pipeline.tcVals c (left6 c W dat))]
  have hin : ∀ b : Ref sig .tc, b ≠ main_v189 → left6 c W dat (Proc.devRef .tc b) = W (Proc.devRef .tc b) := fun b hb =>
    Pipeline.withArrays_of_ne (fun _ : Fin 1 => spec6 2) c W _ b fun _ e => hb e.symm
  have hout : left6 c W dat (Proc.devRef .tc main_v189) = dat.arrAt 2 cfg6.N :=
    Pipeline.withArrays_arr (fun _ : Fin 1 => spec6 2) (fun _ _ _ => Subsingleton.elim _ _) c W _ 0
  refine sep_mono ?_ (Entails.of_eq ?_)
  · show _ ⊢ (Pipeline.arrBufs spec6 c _ : sProp 𝕄)
    unfold Pipeline.arrBufs Dat.arrays
    rw [arrImage6, BI.bigSep_insert (by decide), BI.bigSep_singleton, bigSep_W6]
    have h0 : dat.arrAt 0 cfg6.N = W (Pipeline.arrRef spec6 0) := (dat.arrAt_in 0 rfl _).trans (hA 0)
    have h1 : dat.arrAt 1 cfg6.N = W (Pipeline.arrRef spec6 1) := (dat.arrAt_in 1 rfl _).trans (hA 1)
    have hs0 : (cfg6.win 0).arr.view.set = Finset.univ := (arr_whole6 0).set_eq_univ
    have hs2 : (cfg6.win 2).arr.view.set = Finset.univ := (arr_whole6 2).set_eq_univ
    beta_reduce
    rw [h0, h1, hs0, hs2,
      show dat.share 0 = fullShare.left from hq0, show dat.share 1 = fullShare.right from hq1,
      show dat.share 2 = fullShare from rfl]
    rw [show Pipeline.tcVals c (left6 c W dat) main_v24 = W (Proc.devRef .tc main_v24) from hin main_v24 (by decide),
      show Pipeline.tcVals c (left6 c W dat) main_v189 = dat.arrAt 2 cfg6.N from hout]
    exact sep_assoc'.trans (sep_mono (pointsTo_share (PosShare.mem_left_op_right fullShare)).2 .rfl)
  · show Pipeline.unscopedRest spec6 c _ = Pipeline.unscopedRest spec6 c _
    unfold Pipeline.unscopedRest
    refine bigSep_congr fun b hb => ?_
    have hb' : b ≠ main_v189 := fun e => (Finset.mem_sdiff.mp hb).2 (by rw [arrImage6, e]; decide)
    rw [show Pipeline.tcVals c (left6 c W dat) b = W (Proc.devRef .tc b) from hin b hb']

/-! ## Region 8: both input windows read main_v24; the output window writes main_v699 -/

/-- The two buffers behind region 8's three windows. -/
theorem arrImage8 : Finset.univ.image (Pipeline.arrRef spec8) = ({main_v24, main_v699} : Finset (Ref sig .tc)) := by decide

set_option maxHeartbeats 40000000 in
/-- ENTRY. The unscoped buffers at W yield the region's points-tos: the shared input array's full share is dealt to the
    two input windows (left half, right half), the output array goes to its window whole. -/
theorem split8 (c : Dev nD) (dat : Dat τ (Elt F) Unit ℕ (UR sig nD τ) ℕ cfg8 c)
    (hq0 : dat.q 0 = fullShare.left) (hq1 : dat.q 1 = fullShare.right)
    (W : Valuation τ sig (Elt F)) (hA : ∀ w, dat.A w = W (Pipeline.arrRef spec8 w)) :
    (StableHlo.held (c : Thread nD τ) (Pipeline.ucRefs τ sig) W : sProp 𝕄)
      ⊢ iprop(dat.arrays (dat.arrAt · 0) ∗ Pipeline.unscopedRest spec8 c (Pipeline.tcVals c W)) := by
  rw [← Pipeline.unscopedBufs_held, Pipeline.unscopedBufs_split₀ cfgs 8 winFacts₀8.arr_unscoped c (Pipeline.tcVals c W)]
  refine sep_mono ?_ .rfl
  show (Pipeline.arrBufs spec8 c _ : sProp 𝕄) ⊢ _
  unfold Pipeline.arrBufs Dat.arrays
  rw [arrImage8, BI.bigSep_insert (by decide), BI.bigSep_singleton, bigSep_W8]
  have h0 : dat.arrAt 0 0 = W (Pipeline.arrRef spec8 0) := hA 0
  have h1 : dat.arrAt 1 0 = W (Pipeline.arrRef spec8 1) := hA 1
  have h2 : dat.arrAt 2 0 = W (Pipeline.arrRef spec8 2) := hA 2
  have hs0 : (cfg8.win 0).arr.view.set = Finset.univ := (arr_whole8 0).set_eq_univ
  have hs2 : (cfg8.win 2).arr.view.set = Finset.univ := (arr_whole8 2).set_eq_univ
  beta_reduce
  rw [h0, h1, h2, hs0, hs2,
    show dat.share 0 = fullShare.left from hq0, show dat.share 1 = fullShare.right from hq1,
    show dat.share 2 = fullShare from rfl]
  exact (sep_mono (pointsTo_share (PosShare.mem_left_op_right fullShare)).1 .rfl).trans sep_assoc

/-- The valuation region 8 leaves: its output array at what the write-backs leave, every other buffer as found. -/
abbrev left8 (c : Dev nD) (W : Valuation τ sig (Elt F)) (dat : Dat τ (Elt F) Unit ℕ (UR sig nD τ) ℕ cfg8 c) : Valuation τ sig (Elt F) :=
  Pipeline.withArrays (fun _ : Fin 1 => spec8 2) c W fun _ => dat.arrAt 2 cfg8.N

set_option maxHeartbeats 40000000 in
/-- EXIT. The region's points-tos at what the write-backs leave, beside the other unscoped buffers, are the unscoped
    buffers at the exit valuation: the two halves of the shared input array are collected again (an input array is
    never written), the output array holds the write-backs' result. -/
theorem join8 (c : Dev nD) (dat : Dat τ (Elt F) Unit ℕ (UR sig nD τ) ℕ cfg8 c)
    (hq0 : dat.q 0 = fullShare.left) (hq1 : dat.q 1 = fullShare.right)
    (W : Valuation τ sig (Elt F)) (hA : ∀ w, dat.A w = W (Pipeline.arrRef spec8 w)) :
    iprop(dat.arrays (dat.arrAt · cfg8.N) ∗ Pipeline.unscopedRest spec8 c (Pipeline.tcVals c W))
      ⊢ (StableHlo.held (c : Thread nD τ) (Pipeline.ucRefs τ sig) (left8 c W dat) : sProp 𝕄) := by
  rw [← Pipeline.unscopedBufs_held, Pipeline.unscopedBufs_split₀ cfgs 8 winFacts₀8.arr_unscoped c (Pipeline.tcVals c (left8 c W dat))]
  have hin : ∀ b : Ref sig .tc, b ≠ main_v699 → left8 c W dat (Proc.devRef .tc b) = W (Proc.devRef .tc b) := fun b hb =>
    Pipeline.withArrays_of_ne (fun _ : Fin 1 => spec8 2) c W _ b fun _ e => hb e.symm
  have hout : left8 c W dat (Proc.devRef .tc main_v699) = dat.arrAt 2 cfg8.N :=
    Pipeline.withArrays_arr (fun _ : Fin 1 => spec8 2) (fun _ _ _ => Subsingleton.elim _ _) c W _ 0
  refine sep_mono ?_ (Entails.of_eq ?_)
  · show _ ⊢ (Pipeline.arrBufs spec8 c _ : sProp 𝕄)
    unfold Pipeline.arrBufs Dat.arrays
    rw [arrImage8, BI.bigSep_insert (by decide), BI.bigSep_singleton, bigSep_W8]
    have h0 : dat.arrAt 0 cfg8.N = W (Pipeline.arrRef spec8 0) := (dat.arrAt_in 0 rfl _).trans (hA 0)
    have h1 : dat.arrAt 1 cfg8.N = W (Pipeline.arrRef spec8 1) := (dat.arrAt_in 1 rfl _).trans (hA 1)
    have hs0 : (cfg8.win 0).arr.view.set = Finset.univ := (arr_whole8 0).set_eq_univ
    have hs2 : (cfg8.win 2).arr.view.set = Finset.univ := (arr_whole8 2).set_eq_univ
    beta_reduce
    rw [h0, h1, hs0, hs2,
      show dat.share 0 = fullShare.left from hq0, show dat.share 1 = fullShare.right from hq1,
      show dat.share 2 = fullShare from rfl]
    rw [show Pipeline.tcVals c (left8 c W dat) main_v24 = W (Proc.devRef .tc main_v24) from hin main_v24 (by decide),
      show Pipeline.tcVals c (left8 c W dat) main_v699 = dat.arrAt 2 cfg8.N from hout]
    exact sep_assoc'.trans (sep_mono (pointsTo_share (PosShare.mem_left_op_right fullShare)).2 .rfl)
  · show Pipeline.unscopedRest spec8 c _ = Pipeline.unscopedRest spec8 c _
    unfold Pipeline.unscopedRest
    refine bigSep_congr fun b hb => ?_
    have hb' : b ≠ main_v699 := fun e => (Finset.mem_sdiff.mp hb).2 (by rw [arrImage8, e]; decide)
    rw [show Pipeline.tcVals c (left8 c W dat) b = W (Proc.devRef .tc b) from hin b hb']

end Cert.KernelIdeal.Hand

end
-- ==== Proof.KI.Body0.lean ====
/-
  Region 0's kernel body: one matrix product. At a parameter `V` — the TensorCore's buffer contents when the
  region is entered — and a parameter `q` — the share held of each windowed array —, for any float model `F`:
  each window's block at a grid point (`iblk0`); what the body leaves in the output window's staging buffer,
  the product of the two input blocks laid over the whole buffer (`out0_2`); the body's triple
  (`sound_kernel0`); the pipeline's proof data (`dat0`) and its body obligation (`body_obligation0`).

  The body loads both input staging buffers whole, loads the output staging buffer (a value it never uses),
  and stores the product over the whole output buffer: so the output buffer's contents after the body do not
  depend on what it held, and each input buffer is left as found. An input window whose block index does not
  move between consecutive points is not fetched again; its buffer still holds the block because the body
  left it in place.
-/
import proofs.«146970_j35948876268088_1_alg».proof.Proof.Gen.KernelIdeal.Skeleton
import proofs.«146970_j35948876268088_1_alg».proof.Proof.Gen.KernelIdeal.Points
import Idealize.ShloMosaic.Lib.Pipeline.Kit
import Idealize.ShloMosaic.Lib.Pipeline.FrameBody
import Idealize.ShloMosaic.Lib.Ring
import Idealize.ShloMosaic.Lib.Tactic

-- membership in a rectangle of these extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A conjunction over the three windows, written out window by window. -/
theorem bigSep_W0' {M : Type} [URA M] (Φ : Fin 3 → sProp M) : bigSep Finset.univ Φ = iprop(Φ (0 : Fin 3) ∗ Φ (1 : Fin 3) ∗ Φ (2 : Fin 3)) :=
  bigSep_univ_eq_bigSepL [(0 : Fin 3), (1 : Fin 3), (2 : Fin 3)] (by decide) (by decide) Φ

section Region
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s (`hA`) and whose body leaves the block in place (`hafter`): where the window is not
    fetched its block index has not moved, and the previous point's block is this point's. The window is uncut
    and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer likewise. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each staging buffer through its whole rectangle -/

abbrev r0_0 : Rect S256x256 := Rect.unit (s := S256x256) ![0, 0] S256x256.size inb_S256x256_S256x256_0_0
abbrev r0_1 : Rect S256x256 := Rect.unit (s := S256x256) ![0, 0] S256x256.size inb_S256x256_S256x256_0_0
abbrev r0_2 : Rect S256x256 := Rect.unit (s := S256x256) ![0, 0] S256x256.size inb_S256x256_S256x256_0_0

/-! ## What the body leaves in the output window's buffer -/

/-- Window 2's staging buffer after the body, from the input windows' blocks: its one store, of the product of
    the two loaded blocks, over the whole buffer. -/
def out0_2 (x0 : Vec F S256x256 .f32) (x1 : Vec F S256x256 .f32) : Vec F S256x256 .f32 :=
  View.canon [⟨r0_2, k0_pay1 (View.ld x0 r0_0) (View.ld x1 r0_1)⟩]

/-- The store's rectangle is the whole buffer, so it covers it. -/
theorem cover0_2 (p0 : Vec F S256x256 .f32) (y : S256x256.Idx) :
    ∃ pc ∈ ([⟨r0_2, p0⟩] : List (View.Piece (Elt F) S256x256 .f32)), y ∈ pc.1.set :=
  View.cover_of_tiled [⟨r0_2, p0⟩] S256x256.size (by rfl) y

/-! ## The body's triple -/

set_option maxHeartbeats 1000000 in
/-- The kernel body on whole staging memrefs, the inputs' at read contents `x0`, `x1` and the output's at anything,
    runs to the continuation holding the inputs' as they were and the output's at `out0_2 x0 x1`: the value the
    body loads from the output buffer is never used, and the store covers the buffer. -/
theorem sound_kernel0 (c : Dev nD) (E : Set ℕ) (i : grid0.Coords) (arg2 : Memref sig .tc .vmem S256x256 .f32) (harg2 : arg2.IsWhole) (arg3 : Memref sig .tc .vmem S256x256 .f32) (harg3 : arg3.IsWhole) (arg4 : Memref sig .tc .vmem S256x256 .f32) (harg4 : arg4.IsWhole)
    (x0 : Vec F S256x256 .f32) (x1 : Vec F S256x256 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out0_2 x0 x1)) -∗ K ⟨⟩))
      ⊢ wp frame (wpE (defs₀ (F := F)) Variants.none c none) E (cc0__mm_kernel_highest i arg2 harg2 arg3 harg3 arg4 harg4) K := by
  simp only [cc0__mm_kernel_highest_eq_skeleton]; unfold cc0__mm_kernel_highest_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of pipeline 0 on core `c`: the arrays as the region finds them (`V`); after the body at point
    `t` each input's buffer at its block and the output's at `out0_2` of the input blocks; the invariant the scoped
    rest and the generator register, untouched; nothing owed; the shares `q`. -/
def dat0 (q : Fin cfg0.W → PosShare TreeShare) (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q := q
  owed _ := 0

/-- The proof data's arrays are the region-entry contents. -/
theorem A_eq0 (q : Fin cfg0.W → PosShare TreeShare) (c : Dev nD) (w : Fin cfg0.W) : (dat0 V q c).A w = V c (Pipeline.arrRef spec0 w) := by
  dsimp only [dat0]

/-- What the body leaves, window by window. -/
theorem after0_0 (q : Fin cfg0.W → PosShare TreeShare) (c : Dev nD) (t : Fin cfg0.N) : (dat0 V q c).after 0 t = iblk0 V c 0 t := by dsimp only [dat0]
theorem after0_1 (q : Fin cfg0.W → PosShare TreeShare) (c : Dev nD) (t : Fin cfg0.N) : (dat0 V q c).after 1 t = iblk0 V c 1 t := by dsimp only [dat0]
theorem after0_2 (q : Fin cfg0.W → PosShare TreeShare) (c : Dev nD) (t : Fin cfg0.N) : (dat0 V q c).after 2 t = out0_2 (iblk0 V c 0 t) (iblk0 V c 1 t) := by dsimp only [dat0]

/-- Each input's current staging buffer holds its block at every point, fetched there or not. -/
theorem before0_0 (q : Fin cfg0.W → PosShare TreeShare) (c : Dev nD) (t : Fin cfg0.N) (d) : (dat0 V q c).before 0 t d = iblk0 V c 0 t :=
  before0_0_of V (dat0 V q c) (A_eq0 V q c 0) (after0_0 V q c) t d
theorem before0_1 (q : Fin cfg0.W → PosShare TreeShare) (c : Dev nD) (t : Fin cfg0.N) (d) : (dat0 V q c).before 1 t d = iblk0 V c 1 t :=
  before0_1_of V (dat0 V q c) (A_eq0 V q c 1) (after0_1 V q c) t d

/-! ## The body obligation, at a generic point -/

/-- What the body is called with at point `t`, the windows one by one, -/
def bodyPre0 (q : Fin cfg0.W → PosShare TreeShare) (c : Dev nD) (t : Fin cfg0.N) : sProp 𝕄 :=
  iprop((dat0 V q c).Φ t.castSucc ∗ (dat0 V q c).owesAt () t.castSucc
    ∗ (∃ d, owns (c : Thread nD τ) (st0_0 t) fullShare ((dat0 V q c).before 0 t d))
    ∗ (∃ d, owns (c : Thread nD τ) (st0_1 t) fullShare ((dat0 V q c).before 1 t d))
    ∗ (∃ d, owns (c : Thread nD τ) (st0_2 t) fullShare ((dat0 V q c).before 2 t d)))

/-- and what it returns. -/
def bodyPost0 (q : Fin cfg0.W → PosShare TreeShare) (c : Dev nD) (t : Fin cfg0.N) : sProp 𝕄 :=
  iprop((dat0 V q c).Φ t.succ ∗ (dat0 V q c).owesAt () t.succ
    ∗ owns (c : Thread nD τ) (st0_0 t) fullShare ((dat0 V q c).after 0 t)
    ∗ owns (c : Thread nD τ) (st0_1 t) fullShare ((dat0 V q c).after 1 t)
    ∗ owns (c : Thread nD τ) (st0_2 t) fullShare ((dat0 V q c).after 2 t))

/-- The body at any point: the inputs' memrefs hold their blocks, so the body's triple applies; the invariant and
    the core's tallies pass through unread. -/
theorem sound_body0 (q : Fin cfg0.W → PosShare TreeShare) (c : Dev nD) (t : Fin cfg0.N) :
    bodyPre0 V q c t ⊢ wp frame (wpE (defs₀ (F := F)) Variants.none c none) Set.univ (bodyAt0 t) (fun _ => bodyPost0 V q c t) := by
  unfold bodyPre0 bodyPost0 bodyAt0
  simp only [before0_0, before0_1]
  rw [show (dat0 V q c).Φ t.succ = (dat0 V q c).Φ t.castSucc from rfl,
    show (dat0 V q c).owesAt () t.succ = (dat0 V q c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation0 (q : Fin cfg0.W → PosShare TreeShare) (c : Dev nD) :
    BodyObligation (dat0 (F := F) V q c) (defs₀ (F := F)) Variants.none () Set.univ := fun t => by
  rw [bigSep_W0', bigSep_W0']
  exact sound_body0 V q c t

end Region

end Cert.KernelIdeal.Hand

end
-- ==== Proof.KI.Body1.lean ====
/-
  Region 1's kernel body: one matrix product. At a parameter `V` — the TensorCore's buffer contents when the
  region is entered — and a parameter `q` — the share held of each windowed array —, for any float model `F`:
  each window's block at a grid point (`iblk1`); what the body leaves in the output window's staging buffer,
  the product of the two input blocks laid over the whole buffer (`out1_2`); the body's triple
  (`sound_kernel1`); the pipeline's proof data (`dat1`) and its body obligation (`body_obligation1`).

  The body loads both input staging buffers whole, loads the output staging buffer (a value it never uses),
  and stores the product over the whole output buffer: so the output buffer's contents after the body do not
  depend on what it held, and each input buffer is left as found. An input window whose block index does not
  move between consecutive points is not fetched again; its buffer still holds the block because the body
  left it in place.
-/
import proofs.«146970_j35948876268088_1_alg».proof.Proof.Gen.KernelIdeal.Skeleton
import proofs.«146970_j35948876268088_1_alg».proof.Proof.Gen.KernelIdeal.Points
import Idealize.ShloMosaic.Lib.Pipeline.Kit
import Idealize.ShloMosaic.Lib.Pipeline.FrameBody
import Idealize.ShloMosaic.Lib.Ring
import Idealize.ShloMosaic.Lib.Tactic

-- membership in a rectangle of these extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A conjunction over the three windows, written out window by window. -/
theorem bigSep_W1' {M : Type} [URA M] (Φ : Fin 3 → sProp M) : bigSep Finset.univ Φ = iprop(Φ (0 : Fin 3) ∗ Φ (1 : Fin 3) ∗ Φ (2 : Fin 3)) :=
  bigSep_univ_eq_bigSepL [(0 : Fin 3), (1 : Fin 3), (2 : Fin 3)] (by decide) (by decide) Φ

section Region
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s (`hA`) and whose body leaves the block in place (`hafter`): where the window is not
    fetched its block index has not moved, and the previous point's block is this point's. The window is uncut
    and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer likewise. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each staging buffer through its whole rectangle -/

abbrev r1_0 : Rect S256x2048 := Rect.unit (s := S256x2048) ![0, 0] S256x2048.size inb_S256x2048_S256x2048_0_0
abbrev r1_1 : Rect S2048x256 := Rect.unit (s := S2048x256) ![0, 0] S2048x256.size inb_S2048x256_S2048x256_0_0
abbrev r1_2 : Rect S256x256 := Rect.unit (s := S256x256) ![0, 0] S256x256.size inb_S256x256_S256x256_0_0

/-! ## What the body leaves in the output window's buffer -/

/-- Window 2's staging buffer after the body, from the input windows' blocks: its one store, of the product of
    the two loaded blocks, over the whole buffer. -/
def out1_2 (x0 : Vec F S256x2048 .f32) (x1 : Vec F S2048x256 .f32) : Vec F S256x256 .f32 :=
  View.canon [⟨r1_2, k1_pay1 (View.ld x0 r1_0) (View.ld x1 r1_1)⟩]

/-- The store's rectangle is the whole buffer, so it covers it. -/
theorem cover1_2 (p0 : Vec F S256x256 .f32) (y : S256x256.Idx) :
    ∃ pc ∈ ([⟨r1_2, p0⟩] : List (View.Piece (Elt F) S256x256 .f32)), y ∈ pc.1.set :=
  View.cover_of_tiled [⟨r1_2, p0⟩] S256x256.size (by rfl) y

/-! ## The body's triple -/

set_option maxHeartbeats 1000000 in
/-- The kernel body on whole staging memrefs, the inputs' at read contents `x0`, `x1` and the output's at anything,
    runs to the continuation holding the inputs' as they were and the output's at `out1_2 x0 x1`: the value the
    body loads from the output buffer is never used, and the store covers the buffer. -/
theorem sound_kernel1 (c : Dev nD) (E : Set ℕ) (i : grid1.Coords) (arg2 : Memref sig .tc .vmem S256x2048 .f32) (harg2 : arg2.IsWhole) (arg3 : Memref sig .tc .vmem S2048x256 .f32) (harg3 : arg3.IsWhole) (arg4 : Memref sig .tc .vmem S256x256 .f32) (harg4 : arg4.IsWhole)
    (x0 : Vec F S256x2048 .f32) (x1 : Vec F S2048x256 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out1_2 x0 x1)) -∗ K ⟨⟩))
      ⊢ wp frame (wpE (defs₀ (F := F)) Variants.none c none) E (cc1__mm_kernel_highest i arg2 harg2 arg3 harg3 arg4 harg4) K := by
  simp only [cc1__mm_kernel_highest_eq_skeleton]; unfold cc1__mm_kernel_highest_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The pipeline's proof data -/

/-- The proof data of pipeline 1 on core `c`: the arrays as the region finds them (`V`); after the body at point
    `t` each input's buffer at its block and the output's at `out1_2` of the input blocks; the invariant the scoped
    rest and the generator register, untouched; nothing owed; the shares `q`. -/
def dat1 (q : Fin cfg1.W → PosShare TreeShare) (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q := q
  owed _ := 0

/-- The proof data's arrays are the region-entry contents. -/
theorem A_eq1 (q : Fin cfg1.W → PosShare TreeShare) (c : Dev nD) (w : Fin cfg1.W) : (dat1 V q c).A w = V c (Pipeline.arrRef spec1 w) := by
  dsimp only [dat1]

/-- What the body leaves, window by window. -/
theorem after1_0 (q : Fin cfg1.W → PosShare TreeShare) (c : Dev nD) (t : Fin cfg1.N) : (dat1 V q c).after 0 t = iblk1 V c 0 t := by dsimp only [dat1]
theorem after1_1 (q : Fin cfg1.W → PosShare TreeShare) (c : Dev nD) (t : Fin cfg1.N) : (dat1 V q c).after 1 t = iblk1 V c 1 t := by dsimp only [dat1]
theorem after1_2 (q : Fin cfg1.W → PosShare TreeShare) (c : Dev nD) (t : Fin cfg1.N) : (dat1 V q c).after 2 t = out1_2 (iblk1 V c 0 t) (iblk1 V c 1 t) := by dsimp only [dat1]

/-- Each input's current staging buffer holds its block at every point, fetched there or not. -/
theorem before1_0 (q : Fin cfg1.W → PosShare TreeShare) (c : Dev nD) (t : Fin cfg1.N) (d) : (dat1 V q c).before 0 t d = iblk1 V c 0 t :=
  before1_0_of V (dat1 V q c) (A_eq1 V q c 0) (after1_0 V q c) t d
theorem before1_1 (q : Fin cfg1.W → PosShare TreeShare) (c : Dev nD) (t : Fin cfg1.N) (d) : (dat1 V q c).before 1 t d = iblk1 V c 1 t :=
  before1_1_of V (dat1 V q c) (A_eq1 V q c 1) (after1_1 V q c) t d

/-! ## The body obligation, at a generic point -/

/-- What the body is called with at point `t`, the windows one by one, -/
def bodyPre1 (q : Fin cfg1.W → PosShare TreeShare) (c : Dev nD) (t : Fin cfg1.N) : sProp 𝕄 :=
  iprop((dat1 V q c).Φ t.castSucc ∗ (dat1 V q c).owesAt () t.castSucc
    ∗ (∃ d, owns (c : Thread nD τ) (st1_0 t) fullShare ((dat1 V q c).before 0 t d))
    ∗ (∃ d, owns (c : Thread nD τ) (st1_1 t) fullShare ((dat1 V q c).before 1 t d))
    ∗ (∃ d, owns (c : Thread nD τ) (st1_2 t) fullShare ((dat1 V q c).before 2 t d)))

/-- and what it returns. -/
def bodyPost1 (q : Fin cfg1.W → PosShare TreeShare) (c : Dev nD) (t : Fin cfg1.N) : sProp 𝕄 :=
  iprop((dat1 V q c).Φ t.succ ∗ (dat1 V q c).owesAt () t.succ
    ∗ owns (c : Thread nD τ) (st1_0 t) fullShare ((dat1 V q c).after 0 t)
    ∗ owns (c : Thread nD τ) (st1_1 t) fullShare ((dat1 V q c).after 1 t)
    ∗ owns (c : Thread nD τ) (st1_2 t) fullShare ((dat1 V q c).after 2 t))

/-- The body at any point: the inputs' memrefs hold their blocks, so the body's triple applies; the invariant and
    the core's tallies pass through unread. -/
theorem sound_body1 (q : Fin cfg1.W → PosShare TreeShare) (c : Dev nD) (t : Fin cfg1.N) :
    bodyPre1 V q c t ⊢ wp frame (wpE (defs₀ (F := F)) Variants.none c none) Set.univ (bodyAt1 t) (fun _ => bodyPost1 V q c t) := by
  unfold bodyPre1 bodyPost1 bodyAt1
  simp only [before1_0, before1_1]
  rw [show (dat1 V q c).Φ t.succ = (dat1 V q c).Φ t.castSucc from rfl,
    show (dat1 V q c).owesAt () t.succ = (dat1 V q c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation1 (q : Fin cfg1.W → PosShare TreeShare) (c : Dev nD) :
    BodyObligation (dat1 (F := F) V q c) (defs₀ (F := F)) Variants.none () Set.univ := fun t => by
  rw [bigSep_W1', bigSep_W1']
  exact sound_body1 V q c t

end Region

end Cert.KernelIdeal.Hand

end
-- ==== Proof.KI.Body2.lean ====
/-
  Region 2's kernel body: one matrix product. At a parameter `V` — the TensorCore's buffer contents when the
  region is entered — and a parameter `q` — the share held of each windowed array —, for any float model `F`:
  each window's block at a grid point (`iblk2`); what the body leaves in the output window's staging buffer,
  the product of the two input blocks laid over the whole buffer (`out2_2`); the body's triple
  (`sound_kernel2`); the pipeline's proof data (`dat2`) and its body obligation (`body_obligation2`).

  The body loads both input staging buffers whole, loads the output staging buffer (a value it never uses),
  and stores the product over the whole output buffer: so the output buffer's contents after the body do not
  depend on what it held, and each input buffer is left as found. An input window whose block index does not
  move between consecutive points is not fetched again; its buffer still holds the block because the body
  left it in place.
-/
import proofs.«146970_j35948876268088_1_alg».proof.Proof.Gen.KernelIdeal.Skeleton
import proofs.«146970_j35948876268088_1_alg».proof.Proof.Gen.KernelIdeal.Points
import Idealize.ShloMosaic.Lib.Pipeline.Kit
import Idealize.ShloMosaic.Lib.Pipeline.FrameBody
import Idealize.ShloMosaic.Lib.Ring
import Idealize.ShloMosaic.Lib.Tactic

-- membership in a rectangle of these extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A conjunction over the three windows, written out window by window. -/
theorem bigSep_W2' {M : Type} [URA M] (Φ : Fin 3 → sProp M) : bigSep Finset.univ Φ = iprop(Φ (0 : Fin 3) ∗ Φ (1 : Fin 3) ∗ Φ (2 : Fin 3)) :=
  bigSep_univ_eq_bigSepL [(0 : Fin 3), (1 : Fin 3), (2 : Fin 3)] (by decide) (by decide) Φ

section Region
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof
    data whose array is `V`'s (`hA`) and whose body leaves the block in place (`hafter`): where the window is not
    fetched its block index has not moved, and the previous point's block is this point's. The window is uncut
    and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer likewise. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each staging buffer through its whole rectangle -/

abbrev r2_0 : Rect S256x2048 := Rect.unit (s := S256x2048) ![0, 0] S256x2048.size inb_S256x2048_S256x2048_0_0
abbrev r2_1 : Rect S2048x256 := Rect.unit (s := S2048x256) ![0, 0] S2048x256.size inb_S2048x256_S2048x256_0_0
abbrev r2_2 : Rect S256x256 := Rect.unit (s := S256x256) ![0, 0] S256x256.size inb_S256x256_S256x256_0_0

/-! ## What the body leaves in the output window's buffer -/

/-- Window 2's staging buffer after the body, from the input windows' blocks: its one store, of the product of
    the two loaded blocks, over the whole buffer. -/
def out2_2 (x0 : Vec F S256x2048 .f32) (x1 : Vec F S2048x256 .f32) : Vec F S256x256 .f32 :=
  View.canon [⟨r2_2, k2_pay1 (View.ld x0 r2_0) (View.ld x1 r2_1)⟩]

/-- The store's rectangle is the whole buffer, so it covers it. -/
theorem cover2_2 (p0 : Vec F S256x256 .f32) (y : S256x256.Idx) :
    ∃ pc ∈ ([⟨r2_2, p0⟩] : List (View.Piece (Elt F) S256x256 .f32)), y ∈ pc.1.set :=
  View.cover_of_tiled [⟨r2_2, p0⟩] S256x256.size (by rfl) y

/-! ## The body's triple -/

set_option maxHeartbeats 1000000 in
/-- The kernel body on whole staging memrefs, the inputs' at read contents `x0`, `x1` and the output's at anything,
    runs to the continuation holding the inputs' as they were and the output's at `out2_2 x0 x1`: the value the
    body loads from the output buffer is never used, and the store covers the buffer. -/
theorem sound_kernel2 (c : Dev nD) (E : Set ℕ) (i : grid2.Coords) (arg2 : Memref sig .tc .vmem S256x2048 .f32) (harg2 : arg2.IsWhole) (arg3 : Memref sig .tc .vmem S2048x256 .f32) (harg3 : arg3.IsWhole) (arg4 : Memref sig .tc .vmem S256x256 .f32) (harg4 : arg4.IsWhole)
    (x0 : Vec F S256x2048 .f32) (x1 : Vec F S2048x256 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out2_2 x0 x1)) -∗ K ⟨⟩))
      ⊢ wp frame (wpE (defs₀ (F := F)) Variants.none c none) E (cc2__mm_kernel_highest i arg2 harg2 arg3 harg3 arg4 harg4) K := by
  simp only [cc2__mm_kernel_highest_eq_skeleton]; unfold cc2__mm_kernel_highest_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The pipeline's proof data -/

/-- The proof data of pipeline 2 on core `c`: the arrays as the region finds them (`V`); after the body at point
    `t` each input's buffer at its block and the output's at `out2_2` of the input blocks; the invariant the scoped
    rest and the generator register, untouched; nothing owed; the shares `q`. -/
def dat2 (q : Fin cfg2.W → PosShare TreeShare) (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q := q
  owed _ := 0

/-- The proof data's arrays are the region-entry contents. -/
theorem A_eq2 (q : Fin cfg2.W → PosShare TreeShare) (c : Dev nD) (w : Fin cfg2.W) : (dat2 V q c).A w = V c (Pipeline.arrRef spec2 w) := by
  dsimp only [dat2]

/-- What the body leaves, window by window. -/
theorem after2_0 (q : Fin cfg2.W → PosShare TreeShare) (c : Dev nD) (t : Fin cfg2.N) : (dat2 V q c).after 0 t = iblk2 V c 0 t := by dsimp only [dat2]
theorem after2_1 (q : Fin cfg2.W → PosShare TreeShare) (c : Dev nD) (t : Fin cfg2.N) : (dat2 V q c).after 1 t = iblk2 V c 1 t := by dsimp only [dat2]
theorem after2_2 (q : Fin cfg2.W → PosShare TreeShare) (c : Dev nD) (t : Fin cfg2.N) : (dat2 V q c).after 2 t = out2_2 (iblk2 V c 0 t) (iblk2 V c 1 t) := by dsimp only [dat2]

/-- Each input's current staging buffer holds its block at every point, fetched there or not. -/
theorem before2_0 (q : Fin cfg2.W → PosShare TreeShare) (c : Dev nD) (t : Fin cfg2.N) (d) : (dat2 V q c).before 0 t d = iblk2 V c 0 t :=
  before2_0_of V (dat2 V q c) (A_eq2 V q c 0) (after2_0 V q c) t d
theorem before2_1 (q : Fin cfg2.W → PosShare TreeShare) (c : Dev nD) (t : Fin cfg2.N) (d) : (dat2 V q c).before 1 t d = iblk2 V c 1 t :=
  before2_1_of V (dat2 V q c) (A_eq2 V q c 1) (after2_1 V q c) t d

/-! ## The body obligation, at a generic point -/

/-- What the body is called with at point `t`, the windows one by one, -/
def bodyPre2 (q : Fin cfg2.W → PosShare TreeShare) (c : Dev nD) (t : Fin cfg2.N) : sProp 𝕄 :=
  iprop((dat2 V q c).Φ t.castSucc ∗ (dat2 V q c).owesAt () t.castSucc
    ∗ (∃ d, owns (c : Thread nD τ) (st2_0 t) fullShare ((dat2 V q c).before 0 t d))
    ∗ (∃ d, owns (c : Thread nD τ) (st2_1 t) fullShare ((dat2 V q c).before 1 t d))
    ∗ (∃ d, owns (c : Thread nD τ) (st2_2 t) fullShare ((dat2 V q c).before 2 t d)))

/-- and what it returns. -/
def bodyPost2 (q : Fin cfg2.W → PosShare TreeShare) (c : Dev nD) (t : Fin cfg2.N) : sProp 𝕄 :=
  iprop((dat2 V q c).Φ t.succ ∗ (dat2 V q c).owesAt () t.succ
    ∗ owns (c : Thread nD τ) (st2_0 t) fullShare ((dat2 V q c).after 0 t)
    ∗ owns (c : Thread nD τ) (st2_1 t) fullShare ((dat2 V q c).after 1 t)
    ∗ owns (c : Thread nD τ) (st2_2 t) fullShare ((dat2 V q c).after 2 t))

/-- The body at any point: the inputs' memrefs hold their blocks, so the body's triple applies; the invariant and
    the core's tallies pass through unread. -/
theorem sound_body2 (q : Fin cfg2.W → PosShare TreeShare) (c : Dev nD) (t : Fin cfg2.N) :
    bodyPre2 V q c t ⊢ wp frame (wpE (defs₀ (F := F)) Variants.none c none) Set.univ (bodyAt2 t) (fun _ => bodyPost2 V q c t) := by
  unfold bodyPre2 bodyPost2 bodyAt2
  simp only [before2_0, before2_1]
  rw [show (dat2 V q c).Φ t.succ = (dat2 V q c).Φ t.castSucc from rfl,
    show (dat2 V q c).owesAt () t.succ = (dat2 V q c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation2 (q : Fin cfg2.W → PosShare TreeShare) (c : Dev nD) :
    BodyObligation (dat2 (F := F) V q c) (defs₀ (F := F)) Variants.none () Set.univ := fun t => by
  rw [bigSep_W2', bigSep_W2']
  exact sound_body2 V q c t

end Region

end Cert.KernelIdeal.Hand

end
-- ==== Proof.KI.Body3.lean ====
/-
  Region 3's kernel body: one matrix product. At a parameter `V` — the TensorCore's buffer contents when the
  region is entered — and a parameter `q` — the share held of each windowed array —, for any float model `F`:
  each window's block at a grid point (`iblk3`); what the body leaves in the output window's staging buffer,
  the product of the two input blocks laid over the whole buffer (`out3_2`); the body's triple
  (`sound_kernel3`); the pipeline's proof data (`dat3`) and its body obligation (`body_obligation3`).

  The body loads both input staging buffers whole, loads the output staging buffer (a value it never uses),
  and stores the product over the whole output buffer: so the output buffer's contents after the body do not
  depend on what it held, and each input buffer is left as found. An input window whose block index does not
  move between consecutive points is not fetched again; its buffer still holds the block because the body
  left it in place.
-/
import proofs.«146970_j35948876268088_1_alg».proof.Proof.Gen.KernelIdeal.Skeleton
import proofs.«146970_j35948876268088_1_alg».proof.Proof.Gen.KernelIdeal.Points
import Idealize.ShloMosaic.Lib.Pipeline.Kit
import Idealize.ShloMosaic.Lib.Pipeline.FrameBody
import Idealize.ShloMosaic.Lib.Ring
import Idealize.ShloMosaic.Lib.Tactic

-- membership in a rectangle of these extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A conjunction over the three windows, written out window by window. -/
theorem bigSep_W3' {M : Type} [URA M] (Φ : Fin 3 → sProp M) : bigSep Finset.univ Φ = iprop(Φ (0 : Fin 3) ∗ Φ (1 : Fin 3) ∗ Φ (2 : Fin 3)) :=
  bigSep_univ_eq_bigSepL [(0 : Fin 3), (1 : Fin 3), (2 : Fin 3)] (by decide) (by decide) Φ

section Region
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for any proof
    data whose array is `V`'s (`hA`) and whose body leaves the block in place (`hafter`): where the window is not
    fetched its block index has not moved, and the previous point's block is this point's. The window is uncut
    and never idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer likewise. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each staging buffer through its whole rectangle -/

abbrev r3_0 : Rect S256x256 := Rect.unit (s := S256x256) ![0, 0] S256x256.size inb_S256x256_S256x256_0_0
abbrev r3_1 : Rect S256x256 := Rect.unit (s := S256x256) ![0, 0] S256x256.size inb_S256x256_S256x256_0_0
abbrev r3_2 : Rect S256x256 := Rect.unit (s := S256x256) ![0, 0] S256x256.size inb_S256x256_S256x256_0_0

/-! ## What the body leaves in the output window's buffer -/

/-- Window 2's staging buffer after the body, from the input windows' blocks: its one store, of the product of
    the two loaded blocks, over the whole buffer. -/
def out3_2 (x0 : Vec F S256x256 .f32) (x1 : Vec F S256x256 .f32) : Vec F S256x256 .f32 :=
  View.canon [⟨r3_2, k3_pay1 (View.ld x0 r3_0) (View.ld x1 r3_1)⟩]

/-- The store's rectangle is the whole buffer, so it covers it. -/
theorem cover3_2 (p0 : Vec F S256x256 .f32) (y : S256x256.Idx) :
    ∃ pc ∈ ([⟨r3_2, p0⟩] : List (View.Piece (Elt F) S256x256 .f32)), y ∈ pc.1.set :=
  View.cover_of_tiled [⟨r3_2, p0⟩] S256x256.size (by rfl) y

/-! ## The body's triple -/

set_option maxHeartbeats 1000000 in
/-- The kernel body on whole staging memrefs, the inputs' at read contents `x0`, `x1` and the output's at anything,
    runs to the continuation holding the inputs' as they were and the output's at `out3_2 x0 x1`: the value the
    body loads from the output buffer is never used, and the store covers the buffer. -/
theorem sound_kernel3 (c : Dev nD) (E : Set ℕ) (i : grid3.Coords) (arg2 : Memref sig .tc .vmem S256x256 .f32) (harg2 : arg2.IsWhole) (arg3 : Memref sig .tc .vmem S256x256 .f32) (harg3 : arg3.IsWhole) (arg4 : Memref sig .tc .vmem S256x256 .f32) (harg4 : arg4.IsWhole)
    (x0 : Vec F S256x256 .f32) (x1 : Vec F S256x256 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out3_2 x0 x1)) -∗ K ⟨⟩))
      ⊢ wp frame (wpE (defs₀ (F := F)) Variants.none c none) E (cc3__mm_kernel_highest i arg2 harg2 arg3 harg3 arg4 harg4) K := by
  simp only [cc3__mm_kernel_highest_eq_skeleton]; unfold cc3__mm_kernel_highest_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-! ## The pipeline's proof data -/

/-- The proof data of pipeline 3 on core `c`: the arrays as the region finds them (`V`); after the body at point
    `t` each input's buffer at its block and the output's at `out3_2` of the input blocks; the invariant the scoped
    rest and the generator register, untouched; nothing owed; the shares `q`. -/
def dat3 (q : Fin cfg3.W → PosShare TreeShare) (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q := q
  owed _ := 0

/-- The proof data's arrays are the region-entry contents. -/
theorem A_eq3 (q : Fin cfg3.W → PosShare TreeShare) (c : Dev nD) (w : Fin cfg3.W) : (dat3 V q c).A w = V c (Pipeline.arrRef spec3 w) := by
  dsimp only [dat3]

/-- What the body leaves, window by window. -/
theorem after3_0 (q : Fin cfg3.W → PosShare TreeShare) (c : Dev nD) (t : Fin cfg3.N) : (dat3 V q c).after 0 t = iblk3 V c 0 t := by dsimp only [dat3]
theorem after3_1 (q : Fin cfg3.W → PosShare TreeShare) (c : Dev nD) (t : Fin cfg3.N) : (dat3 V q c).after 1 t = iblk3 V c 1 t := by dsimp only [dat3]
theorem after3_2 (q : Fin cfg3.W → PosShare TreeShare) (c : Dev nD) (t : Fin cfg3.N) : (dat3 V q c).after 2 t = out3_2 (iblk3 V c 0 t) (iblk3 V c 1 t) := by dsimp only [dat3]

/-- Each input's current staging buffer holds its block at every point, fetched there or not. -/
theorem before3_0 (q : Fin cfg3.W → PosShare TreeShare) (c : Dev nD) (t : Fin cfg3.N) (d) : (dat3 V q c).before 0 t d = iblk3 V c 0 t :=
  before3_0_of V (dat3 V q c) (A_eq3 V q c 0) (after3_0 V q c) t d
theorem before3_1 (q : Fin cfg3.W → PosShare TreeShare) (c : Dev nD) (t : Fin cfg3.N) (d) : (dat3 V q c).before 1 t d = iblk3 V c 1 t :=
  before3_1_of V (dat3 V q c) (A_eq3 V q c 1) (after3_1 V q c) t d

/-! ## The body obligation, at a generic point -/

/-- What the body is called with at point `t`, the windows one by one, -/
def bodyPre3 (q : Fin cfg3.W → PosShare TreeShare) (c : Dev nD) (t : Fin cfg3.N) : sProp 𝕄 :=
  iprop((dat3 V q c).Φ t.castSucc ∗ (dat3 V q c).owesAt () t.castSucc
    ∗ (∃ d, owns (c : Thread nD τ) (st3_0 t) fullShare ((dat3 V q c).before 0 t d))
    ∗ (∃ d, owns (c : Thread nD τ) (st3_1 t) fullShare ((dat3 V q c).before 1 t d))
    ∗ (∃ d, owns (c : Thread nD τ) (st3_2 t) fullShare ((dat3 V q c).before 2 t d)))

/-- and what it returns. -/
def bodyPost3 (q : Fin cfg3.W → PosShare TreeShare) (c : Dev nD) (t : Fin cfg3.N) : sProp 𝕄 :=
  iprop((dat3 V q c).Φ t.succ ∗ (dat3 V q c).owesAt () t.succ
    ∗ owns (c : Thread nD τ) (st3_0 t) fullShare ((dat3 V q c).after 0 t)
    ∗ owns (c : Thread nD τ) (st3_1 t) fullShare ((dat3 V q c).after 1 t)
    ∗ owns (c : Thread nD τ) (st3_2 t) fullShare ((dat3 V q c).after 2 t))

/-- The body at any point: the inputs' memrefs hold their blocks, so the body's triple applies; the invariant and
    the core's tallies pass through unread. -/
theorem sound_body3 (q : Fin cfg3.W → PosShare TreeShare) (c : Dev nD) (t : Fin cfg3.N) :
    bodyPre3 V q c t ⊢ wp frame (wpE (defs₀ (F := F)) Variants.none c none) Set.univ (bodyAt3 t) (fun _ => bodyPost3 V q c t) := by
  unfold bodyPre3 bodyPost3 bodyAt3
  simp only [before3_0, before3_1]
  rw [show (dat3 V q c).Φ t.succ = (dat3 V q c).Φ t.castSucc from rfl,
    show (dat3 V q c).owesAt () t.succ = (dat3 V q c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation3 (q : Fin cfg3.W → PosShare TreeShare) (c : Dev nD) :
    BodyObligation (dat3 (F := F) V q c) (defs₀ (F := F)) Variants.none () Set.univ := fun t => by
  rw [bigSep_W3', bigSep_W3']
  exact sound_body3 V q c t

end Region

end Cert.KernelIdeal.Hand

end
-- ==== Proof.KI.Body4.lean ====
/-
  Region 4's kernel body: one matrix product. At a parameter `V` — the TensorCore's buffer contents when the
  region is entered — and a parameter `q` — the share held of each windowed array —, for any float model `F`:
  each window's block at a grid point (`iblk4`); what the body leaves in the output window's staging buffer,
  the product of the two input blocks laid over the whole buffer (`out4_2`); the body's triple
  (`sound_kernel4`); the pipeline's proof data (`dat4`) and its body obligation (`body_obligation4`).

  The body loads both input staging buffers whole, loads the output staging buffer (a value it never uses),
  and stores the product over the whole output buffer: so the output buffer's contents after the body do not
  depend on what it held, and each input buffer is left as found. An input window whose block index does not
  move between consecutive points is not fetched again; its buffer still holds the block because the body
  left it in place.
-/
import proofs.«146970_j35948876268088_1_alg».proof.Proof.Gen.KernelIdeal.Skeleton
import proofs.«146970_j35948876268088_1_alg».proof.Proof.Gen.KernelIdeal.Points
import Idealize.ShloMosaic.Lib.Pipeline.Kit
import Idealize.ShloMosaic.Lib.Pipeline.FrameBody
import Idealize.ShloMosaic.Lib.Ring
import Idealize.ShloMosaic.Lib.Tactic

-- membership in a rectangle of these extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A conjunction over the three windows, written out window by window. -/
theorem bigSep_W4' {M : Type} [URA M] (Φ : Fin 3 → sProp M) : bigSep Finset.univ Φ = iprop(Φ (0 : Fin 3) ∗ Φ (1 : Fin 3) ∗ Φ (2 : Fin 3)) :=
  bigSep_univ_eq_bigSepL [(0 : Fin 3), (1 : Fin 3), (2 : Fin 3)] (by decide) (by decide) Φ

section Region
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not, for any proof
    data whose array is `V`'s (`hA`) and whose body leaves the block in place (`hafter`): where the window is not
    fetched its block index has not moved, and the previous point's block is this point's. The window is uncut
    and never idle. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current staging buffer likewise. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses: each staging buffer through its whole rectangle -/

abbrev r4_0 : Rect S256x2048 := Rect.unit (s := S256x2048) ![0, 0] S256x2048.size inb_S256x2048_S256x2048_0_0
abbrev r4_1 : Rect S2048x256 := Rect.unit (s := S2048x256) ![0, 0] S2048x256.size inb_S2048x256_S2048x256_0_0
abbrev r4_2 : Rect S256x256 := Rect.unit (s := S256x256) ![0, 0] S256x256.size inb_S256x256_S256x256_0_0

/-! ## What the body leaves in the output window's buffer -/

/-- Window 2's staging buffer after the body, from the input windows' blocks: its one store, of the product of
    the two loaded blocks, over the whole buffer. -/
def out4_2 (x0 : Vec F S256x2048 .f32) (x1 : Vec F S2048x256 .f32) : Vec F S256x256 .f32 :=
  View.canon [⟨r4_2, k4_pay1 (View.ld x0 r4_0) (View.ld x1 r4_1)⟩]

/-- The store's rectangle is the whole buffer, so it covers it. -/
theorem cover4_2 (p0 : Vec F S256x256 .f32) (y : S256x256.Idx) :
    ∃ pc ∈ ([⟨r4_2, p0⟩] : List (View.Piece (Elt F) S256x256 .f32)), y ∈ pc.1.set :=
  View.cover_of_tiled [⟨r4_2, p0⟩] S256x256.size (by rfl) y

/-! ## The body's triple -/

set_option maxHeartbeats 1000000 in
/-- The kernel body on whole staging memrefs, the inputs' at read contents `x0`, `x1` and the output's at anything,
    runs to the continuation holding the inputs' as they were and the output's at `out4_2 x0 x1`: the value the
    body loads from the output buffer is never used, and the store covers the buffer. -/
theorem sound_kernel4 (c : Dev nD) (E : Set ℕ) (i : grid4.Coords) (arg2 : Memref sig .tc .vmem S256x2048 .f32) (harg2 : arg2.IsWhole) (arg3 : Memref sig .tc .vmem S2048x256 .f32) (harg3 : arg3.IsWhole) (arg4 : Memref sig .tc .vmem S256x256 .f32) (harg4 : arg4.IsWhole)
    (x0 : Vec F S256x2048 .f32) (x1 : Vec F S2048x256 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out4_2 x0 x1)) -∗ K ⟨⟩))
      ⊢ wp frame (wpE (defs₀ (F := F)) Variants.none c none) E (cc4__mm_kernel_highest i arg2 harg2 arg3 harg3 arg4 harg4) K := by
  simp only [cc4__mm_kernel_highest_eq_skeleton]; unfold cc4__mm_kernel_highest_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover4_2 _)

/-! ## The pipeline's proof data -/

/-- The proof data of pipeline 4 on core `c`: the arrays as the region finds them (`V`); after the body at point
    `t` each input's buffer at its block and the output's at `out4_2` of the input blocks; the invariant the scoped
    rest and the generator register, untouched; nothing owed; the shares `q`. -/
def dat4 (q : Fin cfg4.W → PosShare TreeShare) (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q := q
  owed _ := 0

/-- The proof data's arrays are the region-entry contents. -/
theorem A_eq4 (q : Fin cfg4.W → PosShare TreeShare) (c : Dev nD) (w : Fin cfg4.W) : (dat4 V q c).A w = V c (Pipeline.arrRef spec4 w) := by
  dsimp only [dat4]

/-- What the body leaves, window by window. -/
theorem after4_0 (q : Fin cfg4.W → PosShare TreeShare) (c : Dev nD) (t : Fin cfg4.N) : (dat4 V q c).after 0 t = iblk4 V c 0 t := by dsimp only [dat4]
theorem after4_1 (q : Fin cfg4.W → PosShare TreeShare) (c : Dev nD) (t : Fin cfg4.N) : (dat4 V q c).after 1 t = iblk4 V c 1 t := by dsimp only [dat4]
theorem after4_2 (q : Fin cfg4.W → PosShare TreeShare) (c : Dev nD) (t : Fin cfg4.N) : (dat4 V q c).after 2 t = out4_2 (iblk4 V c 0 t) (iblk4 V c 1 t) := by dsimp only [dat4]

/-- Each input's current staging buffer holds its block at every point, fetched there or not. -/
theorem before4_0 (q : Fin cfg4.W → PosShare TreeShare) (c : Dev nD) (t : Fin cfg4.N) (d) : (dat4 V q c).before 0 t d = iblk4 V c 0 t :=
  before4_0_of V (dat4 V q c) (A_eq4 V q c 0) (after4_0 V q c) t d
theorem before4_1 (q : Fin cfg4.W → PosShare TreeShare) (c : Dev nD) (t : Fin cfg4.N) (d) : (dat4 V q c).before 1 t d = iblk4 V c 1 t :=
  before4_1_of V (dat4 V q c) (A_eq4 V q c 1) (after4_1 V q c) t d

/-! ## The body obligation, at a generic point -/

/-- What the body is called with at point `t`, the windows one by one, -/
def bodyPre4 (q : Fin cfg4.W → PosShare TreeShare) (c : Dev nD) (t : Fin cfg4.N) : sProp 𝕄 :=
  iprop((dat4 V q c).Φ t.castSucc ∗ (dat4 V q c).owesAt () t.castSucc
    ∗ (∃ d, owns (c : Thread nD τ) (st4_0 t) fullShare ((dat4 V q c).before 0 t d))
    ∗ (∃ d, owns (c : Thread nD τ) (st4_1 t) fullShare ((dat4 V q c).before 1 t d))
    ∗ (∃ d, owns (c : Thread nD τ) (st4_2 t) fullShare ((dat4 V q c).before 2 t d)))

/-- and what it returns. -/
def bodyPost4 (q : Fin cfg4.W → PosShare TreeShare) (c : Dev nD) (t : Fin cfg4.N) : sProp 𝕄 :=
  iprop((dat4 V q c).Φ t.succ ∗ (dat4 V q c).owesAt () t.succ
    ∗ owns (c : Thread nD τ) (st4_0 t) fullShare ((dat4 V q c).after 0 t)
    ∗ owns (c : Thread nD τ) (st4_1 t) fullShare ((dat4 V q c).after 1 t)
    ∗ owns (c : Thread nD τ) (st4_2 t) fullShare ((dat4 V q c).after 2 t))

/-- The body at any point: the inputs' memrefs hold their blocks, so the body's triple applies; the invariant and
    the core's tallies pass through unread. -/
theorem sound_body4 (q : Fin cfg4.W → PosShare TreeShare) (c : Dev nD) (t : Fin cfg4.N) :
    bodyPre4 V q c t ⊢ wp frame (wpE (defs₀ (F := F)) Variants.none c none) Set.univ (bodyAt4 t) (fun _ => bodyPost4 V q c t) := by
  unfold bodyPre4 bodyPost4 bodyAt4
  simp only [before4_0, before4_1]
  rw [show (dat4 V q c).Φ t.succ = (dat4 V q c).Φ t.castSucc from rfl,
    show (dat4 V q c).owesAt () t.succ = (dat4 V q c).owesAt () t.castSucc from rfl,
    after4_0, after4_1, after4_2]
  iintro ⟨HΦ, Ho, ⟨%d0, H0⟩, ⟨%d1, H1⟩, ⟨%d2, H2⟩⟩
  iapply (sound_kernel4 c Set.univ _ _ _ _ _ _ _ (iblk4 V c 0 t) (iblk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation4 (q : Fin cfg4.W → PosShare TreeShare) (c : Dev nD) :
    BodyObligation (dat4 (F := F) V q c) (defs₀ (F := F)) Variants.none () Set.univ := fun t => by
  rw [bigSep_W4', bigSep_W4']
  exact sound_body4 V q c t

end Region

end Cert.KernelIdeal.Hand

end
-- ==== Proof.KI.Body5.lean ====
/-
  Region 5's kernel body: one matrix product. At a parameter `V` — the TensorCore's buffer contents when the
  region is entered — and a parameter `q` — the share held of each windowed array —, for any float model `F`:
  each window's block at a grid point (`iblk5`); what the body leaves in the output window's staging buffer,
  the product of the two input blocks laid over the whole buffer (`out5_2`); the body's triple
  (`sound_kernel5`); the pipeline's proof data (`dat5`) and its body obligation (`body_obligation5`).

  The body loads both input staging buffers whole, loads the output staging buffer (a value it never uses),
  and stores the product over the whole output buffer: so the output buffer's contents after the body do not
  depend on what it held, and each input buffer is left as found. An input window whose block index does not
  move between consecutive points is not fetched again; its buffer still holds the block because the body
  left it in place.
-/
import proofs.«146970_j35948876268088_1_alg».proof.Proof.Gen.KernelIdeal.Skeleton
import proofs.«146970_j35948876268088_1_alg».proof.Proof.Gen.KernelIdeal.Points
import Idealize.ShloMosaic.Lib.Pipeline.Kit
import Idealize.ShloMosaic.Lib.Pipeline.FrameBody
import Idealize.ShloMosaic.Lib.Ring
import Idealize.ShloMosaic.Lib.Tactic

-- membership in a rectangle of these extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A conjunction over the three windows, written out window by window. -/
theorem bigSep_W5' {M : Type} [URA M] (Φ : Fin 3 → sProp M) : bigSep Finset.univ Φ = iprop(Φ (0 : Fin 3) ∗ Φ (1 : Fin 3) ∗ Φ (2 : Fin 3)) :=
  bigSep_univ_eq_bigSepL [(0 : Fin 3), (1 : Fin 3), (2 : Fin 3)] (by decide) (by decide) Φ

section Region
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, fetched there or not, for any proof
    data whose array is `V`'s (`hA`) and whose body leaves the block in place (`hafter`): where the window is not
    fetched its block index has not moved, and the previous point's block is this point's. The window is uncut
    and never idle. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's current staging buffer likewise. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses: each staging buffer through its whole rectangle -/

abbrev r5_0 : Rect S256x256 := Rect.unit (s := S256x256) ![0, 0] S256x256.size inb_S256x256_S256x256_0_0
abbrev r5_1 : Rect S256x256 := Rect.unit (s := S256x256) ![0, 0] S256x256.size inb_S256x256_S256x256_0_0
abbrev r5_2 : Rect S256x256 := Rect.unit (s := S256x256) ![0, 0] S256x256.size inb_S256x256_S256x256_0_0

/-! ## What the body leaves in the output window's buffer -/

/-- Window 2's staging buffer after the body, from the input windows' blocks: its one store, of the product of
    the two loaded blocks, over the whole buffer. -/
def out5_2 (x0 : Vec F S256x256 .f32) (x1 : Vec F S256x256 .f32) : Vec F S256x256 .f32 :=
  View.canon [⟨r5_2, k5_pay1 (View.ld x0 r5_0) (View.ld x1 r5_1)⟩]

/-- The store's rectangle is the whole buffer, so it covers it. -/
theorem cover5_2 (p0 : Vec F S256x256 .f32) (y : S256x256.Idx) :
    ∃ pc ∈ ([⟨r5_2, p0⟩] : List (View.Piece (Elt F) S256x256 .f32)), y ∈ pc.1.set :=
  View.cover_of_tiled [⟨r5_2, p0⟩] S256x256.size (by rfl) y

/-! ## The body's triple -/

set_option maxHeartbeats 1000000 in
/-- The kernel body on whole staging memrefs, the inputs' at read contents `x0`, `x1` and the output's at anything,
    runs to the continuation holding the inputs' as they were and the output's at `out5_2 x0 x1`: the value the
    body loads from the output buffer is never used, and the store covers the buffer. -/
theorem sound_kernel5 (c : Dev nD) (E : Set ℕ) (i : grid5.Coords) (arg2 : Memref sig .tc .vmem S256x256 .f32) (harg2 : arg2.IsWhole) (arg3 : Memref sig .tc .vmem S256x256 .f32) (harg3 : arg3.IsWhole) (arg4 : Memref sig .tc .vmem S256x256 .f32) (harg4 : arg4.IsWhole)
    (x0 : Vec F S256x256 .f32) (x1 : Vec F S256x256 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out5_2 x0 x1)) -∗ K ⟨⟩))
      ⊢ wp frame (wpE (defs₀ (F := F)) Variants.none c none) E (cc5__mm_kernel_highest i arg2 harg2 arg3 harg3 arg4 harg4) K := by
  simp only [cc5__mm_kernel_highest_eq_skeleton]; unfold cc5__mm_kernel_highest_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover5_2 _)

/-! ## The pipeline's proof data -/

/-- The proof data of pipeline 5 on core `c`: the arrays as the region finds them (`V`); after the body at point
    `t` each input's buffer at its block and the output's at `out5_2` of the input blocks; the invariant the scoped
    rest and the generator register, untouched; nothing owed; the shares `q`. -/
def dat5 (q : Fin cfg5.W → PosShare TreeShare) (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => out5_2 (iblk5 V c 0 t) (iblk5 V c 1 t)
  Φ _ := Pipeline.ΦA spec5 c
  q := q
  owed _ := 0

/-- The proof data's arrays are the region-entry contents. -/
theorem A_eq5 (q : Fin cfg5.W → PosShare TreeShare) (c : Dev nD) (w : Fin cfg5.W) : (dat5 V q c).A w = V c (Pipeline.arrRef spec5 w) := by
  dsimp only [dat5]

/-- What the body leaves, window by window. -/
theorem after5_0 (q : Fin cfg5.W → PosShare TreeShare) (c : Dev nD) (t : Fin cfg5.N) : (dat5 V q c).after 0 t = iblk5 V c 0 t := by dsimp only [dat5]
theorem after5_1 (q : Fin cfg5.W → PosShare TreeShare) (c : Dev nD) (t : Fin cfg5.N) : (dat5 V q c).after 1 t = iblk5 V c 1 t := by dsimp only [dat5]
theorem after5_2 (q : Fin cfg5.W → PosShare TreeShare) (c : Dev nD) (t : Fin cfg5.N) : (dat5 V q c).after 2 t = out5_2 (iblk5 V c 0 t) (iblk5 V c 1 t) := by dsimp only [dat5]

/-- Each input's current staging buffer holds its block at every point, fetched there or not. -/
theorem before5_0 (q : Fin cfg5.W → PosShare TreeShare) (c : Dev nD) (t : Fin cfg5.N) (d) : (dat5 V q c).before 0 t d = iblk5 V c 0 t :=
  before5_0_of V (dat5 V q c) (A_eq5 V q c 0) (after5_0 V q c) t d
theorem before5_1 (q : Fin cfg5.W → PosShare TreeShare) (c : Dev nD) (t : Fin cfg5.N) (d) : (dat5 V q c).before 1 t d = iblk5 V c 1 t :=
  before5_1_of V (dat5 V q c) (A_eq5 V q c 1) (after5_1 V q c) t d

/-! ## The body obligation, at a generic point -/

/-- What the body is called with at point `t`, the windows one by one, -/
def bodyPre5 (q : Fin cfg5.W → PosShare TreeShare) (c : Dev nD) (t : Fin cfg5.N) : sProp 𝕄 :=
  iprop((dat5 V q c).Φ t.castSucc ∗ (dat5 V q c).owesAt () t.castSucc
    ∗ (∃ d, owns (c : Thread nD τ) (st5_0 t) fullShare ((dat5 V q c).before 0 t d))
    ∗ (∃ d, owns (c : Thread nD τ) (st5_1 t) fullShare ((dat5 V q c).before 1 t d))
    ∗ (∃ d, owns (c : Thread nD τ) (st5_2 t) fullShare ((dat5 V q c).before 2 t d)))

/-- and what it returns. -/
def bodyPost5 (q : Fin cfg5.W → PosShare TreeShare) (c : Dev nD) (t : Fin cfg5.N) : sProp 𝕄 :=
  iprop((dat5 V q c).Φ t.succ ∗ (dat5 V q c).owesAt () t.succ
    ∗ owns (c : Thread nD τ) (st5_0 t) fullShare ((dat5 V q c).after 0 t)
    ∗ owns (c : Thread nD τ) (st5_1 t) fullShare ((dat5 V q c).after 1 t)
    ∗ owns (c : Thread nD τ) (st5_2 t) fullShare ((dat5 V q c).after 2 t))

/-- The body at any point: the inputs' memrefs hold their blocks, so the body's triple applies; the invariant and
    the core's tallies pass through unread. -/
theorem sound_body5 (q : Fin cfg5.W → PosShare TreeShare) (c : Dev nD) (t : Fin cfg5.N) :
    bodyPre5 V q c t ⊢ wp frame (wpE (defs₀ (F := F)) Variants.none c none) Set.univ (bodyAt5 t) (fun _ => bodyPost5 V q c t) := by
  unfold bodyPre5 bodyPost5 bodyAt5
  simp only [before5_0, before5_1]
  rw [show (dat5 V q c).Φ t.succ = (dat5 V q c).Φ t.castSucc from rfl,
    show (dat5 V q c).owesAt () t.succ = (dat5 V q c).owesAt () t.castSucc from rfl,
    after5_0, after5_1, after5_2]
  iintro ⟨HΦ, Ho, ⟨%d0, H0⟩, ⟨%d1, H1⟩, ⟨%d2, H2⟩⟩
  iapply (sound_kernel5 c Set.univ _ _ _ _ _ _ _ (iblk5 V c 0 t) (iblk5 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation5 (q : Fin cfg5.W → PosShare TreeShare) (c : Dev nD) :
    BodyObligation (dat5 (F := F) V q c) (defs₀ (F := F)) Variants.none () Set.univ := fun t => by
  rw [bigSep_W5', bigSep_W5']
  exact sound_body5 V q c t

end Region

end Cert.KernelIdeal.Hand

end
-- ==== Proof.KI.Body6.lean ====
/-
  Region 6's kernel body: one matrix product. At a parameter `V` — the TensorCore's buffer contents when the
  region is entered — and a parameter `q` — the share held of each windowed array —, for any float model `F`:
  each window's block at a grid point (`iblk6`); what the body leaves in the output window's staging buffer,
  the product of the two input blocks laid over the whole buffer (`out6_2`); the body's triple
  (`sound_kernel6`); the pipeline's proof data (`dat6`) and its body obligation (`body_obligation6`).

  The body loads both input staging buffers whole, loads the output staging buffer (a value it never uses),
  and stores the product over the whole output buffer: so the output buffer's contents after the body do not
  depend on what it held, and each input buffer is left as found. An input window whose block index does not
  move between consecutive points is not fetched again; its buffer still holds the block because the body
  left it in place.
-/
import proofs.«146970_j35948876268088_1_alg».proof.Proof.Gen.KernelIdeal.Skeleton
import proofs.«146970_j35948876268088_1_alg».proof.Proof.Gen.KernelIdeal.Points
import Idealize.ShloMosaic.Lib.Pipeline.Kit
import Idealize.ShloMosaic.Lib.Pipeline.FrameBody
import Idealize.ShloMosaic.Lib.Ring
import Idealize.ShloMosaic.Lib.Tactic

-- membership in a rectangle of these extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A conjunction over the three windows, written out window by window. -/
theorem bigSep_W6' {M : Type} [URA M] (Φ : Fin 3 → sProp M) : bigSep Finset.univ Φ = iprop(Φ (0 : Fin 3) ∗ Φ (1 : Fin 3) ∗ Φ (2 : Fin 3)) :=
  bigSep_univ_eq_bigSepL [(0 : Fin 3), (1 : Fin 3), (2 : Fin 3)] (by decide) (by decide) Φ

section Region
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's current staging buffer holds its block at every point, fetched there or not, for any proof
    data whose array is `V`'s (`hA`) and whose body leaves the block in place (`hafter`): where the window is not
    fetched its block index has not moved, and the previous point's block is this point's. The window is uncut
    and never idle. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- Input window 1's current staging buffer likewise. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses: each staging buffer through its whole rectangle -/

abbrev r6_0 : Rect S256x2048 := Rect.unit (s := S256x2048) ![0, 0] S256x2048.size inb_S256x2048_S256x2048_0_0
abbrev r6_1 : Rect S2048x256 := Rect.unit (s := S2048x256) ![0, 0] S2048x256.size inb_S2048x256_S2048x256_0_0
abbrev r6_2 : Rect S256x256 := Rect.unit (s := S256x256) ![0, 0] S256x256.size inb_S256x256_S256x256_0_0

/-! ## What the body leaves in the output window's buffer -/

/-- Window 2's staging buffer after the body, from the input windows' blocks: its one store, of the product of
    the two loaded blocks, over the whole buffer. -/
def out6_2 (x0 : Vec F S256x2048 .f32) (x1 : Vec F S2048x256 .f32) : Vec F S256x256 .f32 :=
  View.canon [⟨r6_2, k6_pay1 (View.ld x0 r6_0) (View.ld x1 r6_1)⟩]

/-- The store's rectangle is the whole buffer, so it covers it. -/
theorem cover6_2 (p0 : Vec F S256x256 .f32) (y : S256x256.Idx) :
    ∃ pc ∈ ([⟨r6_2, p0⟩] : List (View.Piece (Elt F) S256x256 .f32)), y ∈ pc.1.set :=
  View.cover_of_tiled [⟨r6_2, p0⟩] S256x256.size (by rfl) y

/-! ## The body's triple -/

set_option maxHeartbeats 1000000 in
/-- The kernel body on whole staging memrefs, the inputs' at read contents `x0`, `x1` and the output's at anything,
    runs to the continuation holding the inputs' as they were and the output's at `out6_2 x0 x1`: the value the
    body loads from the output buffer is never used, and the store covers the buffer. -/
theorem sound_kernel6 (c : Dev nD) (E : Set ℕ) (i : grid6.Coords) (arg2 : Memref sig .tc .vmem S256x2048 .f32) (harg2 : arg2.IsWhole) (arg3 : Memref sig .tc .vmem S2048x256 .f32) (harg3 : arg3.IsWhole) (arg4 : Memref sig .tc .vmem S256x256 .f32) (harg4 : arg4.IsWhole)
    (x0 : Vec F S256x2048 .f32) (x1 : Vec F S2048x256 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out6_2 x0 x1)) -∗ K ⟨⟩))
      ⊢ wp frame (wpE (defs₀ (F := F)) Variants.none c none) E (cc6__mm_kernel_highest i arg2 harg2 arg3 harg3 arg4 harg4) K := by
  simp only [cc6__mm_kernel_highest_eq_skeleton]; unfold cc6__mm_kernel_highest_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover6_2 _)

/-! ## The pipeline's proof data -/

/-- The proof data of pipeline 6 on core `c`: the arrays as the region finds them (`V`); after the body at point
    `t` each input's buffer at its block and the output's at `out6_2` of the input blocks; the invariant the scoped
    rest and the generator register, untouched; nothing owed; the shares `q`. -/
def dat6 (q : Fin cfg6.W → PosShare TreeShare) (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => out6_2 (iblk6 V c 0 t) (iblk6 V c 1 t)
  Φ _ := Pipeline.ΦA spec6 c
  q := q
  owed _ := 0

/-- The proof data's arrays are the region-entry contents. -/
theorem A_eq6 (q : Fin cfg6.W → PosShare TreeShare) (c : Dev nD) (w : Fin cfg6.W) : (dat6 V q c).A w = V c (Pipeline.arrRef spec6 w) := by
  dsimp only [dat6]

/-- What the body leaves, window by window. -/
theorem after6_0 (q : Fin cfg6.W → PosShare TreeShare) (c : Dev nD) (t : Fin cfg6.N) : (dat6 V q c).after 0 t = iblk6 V c 0 t := by dsimp only [dat6]
theorem after6_1 (q : Fin cfg6.W → PosShare TreeShare) (c : Dev nD) (t : Fin cfg6.N) : (dat6 V q c).after 1 t = iblk6 V c 1 t := by dsimp only [dat6]
theorem after6_2 (q : Fin cfg6.W → PosShare TreeShare) (c : Dev nD) (t : Fin cfg6.N) : (dat6 V q c).after 2 t = out6_2 (iblk6 V c 0 t) (iblk6 V c 1 t) := by dsimp only [dat6]

/-- Each input's current staging buffer holds its block at every point, fetched there or not. -/
theorem before6_0 (q : Fin cfg6.W → PosShare TreeShare) (c : Dev nD) (t : Fin cfg6.N) (d) : (dat6 V q c).before 0 t d = iblk6 V c 0 t :=
  before6_0_of V (dat6 V q c) (A_eq6 V q c 0) (after6_0 V q c) t d
theorem before6_1 (q : Fin cfg6.W → PosShare TreeShare) (c : Dev nD) (t : Fin cfg6.N) (d) : (dat6 V q c).before 1 t d = iblk6 V c 1 t :=
  before6_1_of V (dat6 V q c) (A_eq6 V q c 1) (after6_1 V q c) t d

/-! ## The body obligation, at a generic point -/

/-- What the body is called with at point `t`, the windows one by one, -/
def bodyPre6 (q : Fin cfg6.W → PosShare TreeShare) (c : Dev nD) (t : Fin cfg6.N) : sProp 𝕄 :=
  iprop((dat6 V q c).Φ t.castSucc ∗ (dat6 V q c).owesAt () t.castSucc
    ∗ (∃ d, owns (c : Thread nD τ) (st6_0 t) fullShare ((dat6 V q c).before 0 t d))
    ∗ (∃ d, owns (c : Thread nD τ) (st6_1 t) fullShare ((dat6 V q c).before 1 t d))
    ∗ (∃ d, owns (c : Thread nD τ) (st6_2 t) fullShare ((dat6 V q c).before 2 t d)))

/-- and what it returns. -/
def bodyPost6 (q : Fin cfg6.W → PosShare TreeShare) (c : Dev nD) (t : Fin cfg6.N) : sProp 𝕄 :=
  iprop((dat6 V q c).Φ t.succ ∗ (dat6 V q c).owesAt () t.succ
    ∗ owns (c : Thread nD τ) (st6_0 t) fullShare ((dat6 V q c).after 0 t)
    ∗ owns (c : Thread nD τ) (st6_1 t) fullShare ((dat6 V q c).after 1 t)
    ∗ owns (c : Thread nD τ) (st6_2 t) fullShare ((dat6 V q c).after 2 t))

/-- The body at any point: the inputs' memrefs hold their blocks, so the body's triple applies; the invariant and
    the core's tallies pass through unread. -/
theorem sound_body6 (q : Fin cfg6.W → PosShare TreeShare) (c : Dev nD) (t : Fin cfg6.N) :
    bodyPre6 V q c t ⊢ wp frame (wpE (defs₀ (F := F)) Variants.none c none) Set.univ (bodyAt6 t) (fun _ => bodyPost6 V q c t) := by
  unfold bodyPre6 bodyPost6 bodyAt6
  simp only [before6_0, before6_1]
  rw [show (dat6 V q c).Φ t.succ = (dat6 V q c).Φ t.castSucc from rfl,
    show (dat6 V q c).owesAt () t.succ = (dat6 V q c).owesAt () t.castSucc from rfl,
    after6_0, after6_1, after6_2]
  iintro ⟨HΦ, Ho, ⟨%d0, H0⟩, ⟨%d1, H1⟩, ⟨%d2, H2⟩⟩
  iapply (sound_kernel6 c Set.univ _ _ _ _ _ _ _ (iblk6 V c 0 t) (iblk6 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation6 (q : Fin cfg6.W → PosShare TreeShare) (c : Dev nD) :
    BodyObligation (dat6 (F := F) V q c) (defs₀ (F := F)) Variants.none () Set.univ := fun t => by
  rw [bigSep_W6', bigSep_W6']
  exact sound_body6 V q c t

end Region

end Cert.KernelIdeal.Hand

end
-- ==== Proof.KI.Body7.lean ====
/-
  Region 7's kernel body: one matrix product. At a parameter `V` — the TensorCore's buffer contents when the
  region is entered — and a parameter `q` — the share held of each windowed array —, for any float model `F`:
  each window's block at a grid point (`iblk7`); what the body leaves in the output window's staging buffer,
  the product of the two input blocks laid over the whole buffer (`out7_2`); the body's triple
  (`sound_kernel7`); the pipeline's proof data (`dat7`) and its body obligation (`body_obligation7`).

  The body loads both input staging buffers whole, loads the output staging buffer (a value it never uses),
  and stores the product over the whole output buffer: so the output buffer's contents after the body do not
  depend on what it held, and each input buffer is left as found. An input window whose block index does not
  move between consecutive points is not fetched again; its buffer still holds the block because the body
  left it in place.
-/
import proofs.«146970_j35948876268088_1_alg».proof.Proof.Gen.KernelIdeal.Skeleton
import proofs.«146970_j35948876268088_1_alg».proof.Proof.Gen.KernelIdeal.Points
import Idealize.ShloMosaic.Lib.Pipeline.Kit
import Idealize.ShloMosaic.Lib.Pipeline.FrameBody
import Idealize.ShloMosaic.Lib.Ring
import Idealize.ShloMosaic.Lib.Tactic

-- membership in a rectangle of these extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A conjunction over the three windows, written out window by window. -/
theorem bigSep_W7' {M : Type} [URA M] (Φ : Fin 3 → sProp M) : bigSep Finset.univ Φ = iprop(Φ (0 : Fin 3) ∗ Φ (1 : Fin 3) ∗ Φ (2 : Fin 3)) :=
  bigSep_univ_eq_bigSepL [(0 : Fin 3), (1 : Fin 3), (2 : Fin 3)] (by decide) (by decide) Φ

section Region
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0's current staging buffer holds its block at every point, fetched there or not, for any proof
    data whose array is `V`'s (`hA`) and whose body leaves the block in place (`hafter`): where the window is not
    fetched its block index has not moved, and the previous point's block is this point's. The window is uncut
    and never idle. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- Input window 1's current staging buffer likewise. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-! ## The body's accesses: each staging buffer through its whole rectangle -/

abbrev r7_0 : Rect S256x256 := Rect.unit (s := S256x256) ![0, 0] S256x256.size inb_S256x256_S256x256_0_0
abbrev r7_1 : Rect S256x256 := Rect.unit (s := S256x256) ![0, 0] S256x256.size inb_S256x256_S256x256_0_0
abbrev r7_2 : Rect S256x256 := Rect.unit (s := S256x256) ![0, 0] S256x256.size inb_S256x256_S256x256_0_0

/-! ## What the body leaves in the output window's buffer -/

/-- Window 2's staging buffer after the body, from the input windows' blocks: its one store, of the product of
    the two loaded blocks, over the whole buffer. -/
def out7_2 (x0 : Vec F S256x256 .f32) (x1 : Vec F S256x256 .f32) : Vec F S256x256 .f32 :=
  View.canon [⟨r7_2, k7_pay1 (View.ld x0 r7_0) (View.ld x1 r7_1)⟩]

/-- The store's rectangle is the whole buffer, so it covers it. -/
theorem cover7_2 (p0 : Vec F S256x256 .f32) (y : S256x256.Idx) :
    ∃ pc ∈ ([⟨r7_2, p0⟩] : List (View.Piece (Elt F) S256x256 .f32)), y ∈ pc.1.set :=
  View.cover_of_tiled [⟨r7_2, p0⟩] S256x256.size (by rfl) y

/-! ## The body's triple -/

set_option maxHeartbeats 1000000 in
/-- The kernel body on whole staging memrefs, the inputs' at read contents `x0`, `x1` and the output's at anything,
    runs to the continuation holding the inputs' as they were and the output's at `out7_2 x0 x1`: the value the
    body loads from the output buffer is never used, and the store covers the buffer. -/
theorem sound_kernel7 (c : Dev nD) (E : Set ℕ) (i : grid7.Coords) (arg2 : Memref sig .tc .vmem S256x256 .f32) (harg2 : arg2.IsWhole) (arg3 : Memref sig .tc .vmem S256x256 .f32) (harg3 : arg3.IsWhole) (arg4 : Memref sig .tc .vmem S256x256 .f32) (harg4 : arg4.IsWhole)
    (x0 : Vec F S256x256 .f32) (x1 : Vec F S256x256 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out7_2 x0 x1)) -∗ K ⟨⟩))
      ⊢ wp frame (wpE (defs₀ (F := F)) Variants.none c none) E (cc7__mm_kernel_highest i arg2 harg2 arg3 harg3 arg4 harg4) K := by
  simp only [cc7__mm_kernel_highest_eq_skeleton]; unfold cc7__mm_kernel_highest_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover7_2 _)

/-! ## The pipeline's proof data -/

/-- The proof data of pipeline 7 on core `c`: the arrays as the region finds them (`V`); after the body at point
    `t` each input's buffer at its block and the output's at `out7_2` of the input blocks; the invariant the scoped
    rest and the generator register, untouched; nothing owed; the shares `q`. -/
def dat7 (q : Fin cfg7.W → PosShare TreeShare) (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => out7_2 (iblk7 V c 0 t) (iblk7 V c 1 t)
  Φ _ := Pipeline.ΦA spec7 c
  q := q
  owed _ := 0

/-- The proof data's arrays are the region-entry contents. -/
theorem A_eq7 (q : Fin cfg7.W → PosShare TreeShare) (c : Dev nD) (w : Fin cfg7.W) : (dat7 V q c).A w = V c (Pipeline.arrRef spec7 w) := by
  dsimp only [dat7]

/-- What the body leaves, window by window. -/
theorem after7_0 (q : Fin cfg7.W → PosShare TreeShare) (c : Dev nD) (t : Fin cfg7.N) : (dat7 V q c).after 0 t = iblk7 V c 0 t := by dsimp only [dat7]
theorem after7_1 (q : Fin cfg7.W → PosShare TreeShare) (c : Dev nD) (t : Fin cfg7.N) : (dat7 V q c).after 1 t = iblk7 V c 1 t := by dsimp only [dat7]
theorem after7_2 (q : Fin cfg7.W → PosShare TreeShare) (c : Dev nD) (t : Fin cfg7.N) : (dat7 V q c).after 2 t = out7_2 (iblk7 V c 0 t) (iblk7 V c 1 t) := by dsimp only [dat7]

/-- Each input's current staging buffer holds its block at every point, fetched there or not. -/
theorem before7_0 (q : Fin cfg7.W → PosShare TreeShare) (c : Dev nD) (t : Fin cfg7.N) (d) : (dat7 V q c).before 0 t d = iblk7 V c 0 t :=
  before7_0_of V (dat7 V q c) (A_eq7 V q c 0) (after7_0 V q c) t d
theorem before7_1 (q : Fin cfg7.W → PosShare TreeShare) (c : Dev nD) (t : Fin cfg7.N) (d) : (dat7 V q c).before 1 t d = iblk7 V c 1 t :=
  before7_1_of V (dat7 V q c) (A_eq7 V q c 1) (after7_1 V q c) t d

/-! ## The body obligation, at a generic point -/

/-- What the body is called with at point `t`, the windows one by one, -/
def bodyPre7 (q : Fin cfg7.W → PosShare TreeShare) (c : Dev nD) (t : Fin cfg7.N) : sProp 𝕄 :=
  iprop((dat7 V q c).Φ t.castSucc ∗ (dat7 V q c).owesAt () t.castSucc
    ∗ (∃ d, owns (c : Thread nD τ) (st7_0 t) fullShare ((dat7 V q c).before 0 t d))
    ∗ (∃ d, owns (c : Thread nD τ) (st7_1 t) fullShare ((dat7 V q c).before 1 t d))
    ∗ (∃ d, owns (c : Thread nD τ) (st7_2 t) fullShare ((dat7 V q c).before 2 t d)))

/-- and what it returns. -/
def bodyPost7 (q : Fin cfg7.W → PosShare TreeShare) (c : Dev nD) (t : Fin cfg7.N) : sProp 𝕄 :=
  iprop((dat7 V q c).Φ t.succ ∗ (dat7 V q c).owesAt () t.succ
    ∗ owns (c : Thread nD τ) (st7_0 t) fullShare ((dat7 V q c).after 0 t)
    ∗ owns (c : Thread nD τ) (st7_1 t) fullShare ((dat7 V q c).after 1 t)
    ∗ owns (c : Thread nD τ) (st7_2 t) fullShare ((dat7 V q c).after 2 t))

/-- The body at any point: the inputs' memrefs hold their blocks, so the body's triple applies; the invariant and
    the core's tallies pass through unread. -/
theorem sound_body7 (q : Fin cfg7.W → PosShare TreeShare) (c : Dev nD) (t : Fin cfg7.N) :
    bodyPre7 V q c t ⊢ wp frame (wpE (defs₀ (F := F)) Variants.none c none) Set.univ (bodyAt7 t) (fun _ => bodyPost7 V q c t) := by
  unfold bodyPre7 bodyPost7 bodyAt7
  simp only [before7_0, before7_1]
  rw [show (dat7 V q c).Φ t.succ = (dat7 V q c).Φ t.castSucc from rfl,
    show (dat7 V q c).owesAt () t.succ = (dat7 V q c).owesAt () t.castSucc from rfl,
    after7_0, after7_1, after7_2]
  iintro ⟨HΦ, Ho, ⟨%d0, H0⟩, ⟨%d1, H1⟩, ⟨%d2, H2⟩⟩
  iapply (sound_kernel7 c Set.univ _ _ _ _ _ _ _ (iblk7 V c 0 t) (iblk7 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation7 (q : Fin cfg7.W → PosShare TreeShare) (c : Dev nD) :
    BodyObligation (dat7 (F := F) V q c) (defs₀ (F := F)) Variants.none () Set.univ := fun t => by
  rw [bigSep_W7', bigSep_W7']
  exact sound_body7 V q c t

end Region

end Cert.KernelIdeal.Hand

end
-- ==== Proof.KI.Body8.lean ====
/-
  Region 8's kernel body: one matrix product. At a parameter `V` — the TensorCore's buffer contents when the
  region is entered — and a parameter `q` — the share held of each windowed array —, for any float model `F`:
  each window's block at a grid point (`iblk8`); what the body leaves in the output window's staging buffer,
  the product of the two input blocks laid over the whole buffer (`out8_2`); the body's triple
  (`sound_kernel8`); the pipeline's proof data (`dat8`) and its body obligation (`body_obligation8`).

  The body loads both input staging buffers whole, loads the output staging buffer (a value it never uses),
  and stores the product over the whole output buffer: so the output buffer's contents after the body do not
  depend on what it held, and each input buffer is left as found. An input window whose block index does not
  move between consecutive points is not fetched again; its buffer still holds the block because the body
  left it in place.
-/
import proofs.«146970_j35948876268088_1_alg».proof.Proof.Gen.KernelIdeal.Skeleton
import proofs.«146970_j35948876268088_1_alg».proof.Proof.Gen.KernelIdeal.Points
import Idealize.ShloMosaic.Lib.Pipeline.Kit
import Idealize.ShloMosaic.Lib.Pipeline.FrameBody
import Idealize.ShloMosaic.Lib.Ring
import Idealize.ShloMosaic.Lib.Tactic

-- membership in a rectangle of these extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A conjunction over the three windows, written out window by window. -/
theorem bigSep_W8' {M : Type} [URA M] (Φ : Fin 3 → sProp M) : bigSep Finset.univ Φ = iprop(Φ (0 : Fin 3) ∗ Φ (1 : Fin 3) ∗ Φ (2 : Fin 3)) :=
  bigSep_univ_eq_bigSepL [(0 : Fin 3), (1 : Fin 3), (2 : Fin 3)] (by decide) (by decide) Φ

section Region
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- Input window 0's current staging buffer holds its block at every point, fetched there or not, for any proof
    data whose array is `V`'s (`hA`) and whose body leaves the block in place (`hafter`): where the window is not
    fetched its block index has not moved, and the previous point's block is this point's. The window is uncut
    and never idle. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

/-- Input window 1's current staging buffer likewise. -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

/-! ## The body's accesses: each staging buffer through its whole rectangle -/

abbrev r8_0 : Rect S256x2048 := Rect.unit (s := S256x2048) ![0, 0] S256x2048.size inb_S256x2048_S256x2048_0_0
abbrev r8_1 : Rect S2048x256 := Rect.unit (s := S2048x256) ![0, 0] S2048x256.size inb_S2048x256_S2048x256_0_0
abbrev r8_2 : Rect S256x256 := Rect.unit (s := S256x256) ![0, 0] S256x256.size inb_S256x256_S256x256_0_0

/-! ## What the body leaves in the output window's buffer -/

/-- Window 2's staging buffer after the body, from the input windows' blocks: its one store, of the product of
    the two loaded blocks, over the whole buffer. -/
def out8_2 (x0 : Vec F S256x2048 .f32) (x1 : Vec F S2048x256 .f32) : Vec F S256x256 .f32 :=
  View.canon [⟨r8_2, k8_pay1 (View.ld x0 r8_0) (View.ld x1 r8_1)⟩]

/-- The store's rectangle is the whole buffer, so it covers it. -/
theorem cover8_2 (p0 : Vec F S256x256 .f32) (y : S256x256.Idx) :
    ∃ pc ∈ ([⟨r8_2, p0⟩] : List (View.Piece (Elt F) S256x256 .f32)), y ∈ pc.1.set :=
  View.cover_of_tiled [⟨r8_2, p0⟩] S256x256.size (by rfl) y

/-! ## The body's triple -/

set_option maxHeartbeats 1000000 in
/-- The kernel body on whole staging memrefs, the inputs' at read contents `x0`, `x1` and the output's at anything,
    runs to the continuation holding the inputs' as they were and the output's at `out8_2 x0 x1`: the value the
    body loads from the output buffer is never used, and the store covers the buffer. -/
theorem sound_kernel8 (c : Dev nD) (E : Set ℕ) (i : grid8.Coords) (arg2 : Memref sig .tc .vmem S256x2048 .f32) (harg2 : arg2.IsWhole) (arg3 : Memref sig .tc .vmem S2048x256 .f32) (harg3 : arg3.IsWhole) (arg4 : Memref sig .tc .vmem S256x256 .f32) (harg4 : arg4.IsWhole)
    (x0 : Vec F S256x2048 .f32) (x1 : Vec F S2048x256 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out8_2 x0 x1)) -∗ K ⟨⟩))
      ⊢ wp frame (wpE (defs₀ (F := F)) Variants.none c none) E (cc8__mm_kernel_highest i arg2 harg2 arg3 harg3 arg4 harg4) K := by
  simp only [cc8__mm_kernel_highest_eq_skeleton]; unfold cc8__mm_kernel_highest_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover8_2 _)

/-! ## The pipeline's proof data -/

/-- The proof data of pipeline 8 on core `c`: the arrays as the region finds them (`V`); after the body at point
    `t` each input's buffer at its block and the output's at `out8_2` of the input blocks; the invariant the scoped
    rest and the generator register, untouched; nothing owed; the shares `q`. -/
def dat8 (q : Fin cfg8.W → PosShare TreeShare) (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => out8_2 (iblk8 V c 0 t) (iblk8 V c 1 t)
  Φ _ := Pipeline.ΦA spec8 c
  q := q
  owed _ := 0

/-- The proof data's arrays are the region-entry contents. -/
theorem A_eq8 (q : Fin cfg8.W → PosShare TreeShare) (c : Dev nD) (w : Fin cfg8.W) : (dat8 V q c).A w = V c (Pipeline.arrRef spec8 w) := by
  dsimp only [dat8]

/-- What the body leaves, window by window. -/
theorem after8_0 (q : Fin cfg8.W → PosShare TreeShare) (c : Dev nD) (t : Fin cfg8.N) : (dat8 V q c).after 0 t = iblk8 V c 0 t := by dsimp only [dat8]
theorem after8_1 (q : Fin cfg8.W → PosShare TreeShare) (c : Dev nD) (t : Fin cfg8.N) : (dat8 V q c).after 1 t = iblk8 V c 1 t := by dsimp only [dat8]
theorem after8_2 (q : Fin cfg8.W → PosShare TreeShare) (c : Dev nD) (t : Fin cfg8.N) : (dat8 V q c).after 2 t = out8_2 (iblk8 V c 0 t) (iblk8 V c 1 t) := by dsimp only [dat8]

/-- Each input's current staging buffer holds its block at every point, fetched there or not. -/
theorem before8_0 (q : Fin cfg8.W → PosShare TreeShare) (c : Dev nD) (t : Fin cfg8.N) (d) : (dat8 V q c).before 0 t d = iblk8 V c 0 t :=
  before8_0_of V (dat8 V q c) (A_eq8 V q c 0) (after8_0 V q c) t d
theorem before8_1 (q : Fin cfg8.W → PosShare TreeShare) (c : Dev nD) (t : Fin cfg8.N) (d) : (dat8 V q c).before 1 t d = iblk8 V c 1 t :=
  before8_1_of V (dat8 V q c) (A_eq8 V q c 1) (after8_1 V q c) t d

/-! ## The body obligation, at a generic point -/

/-- What the body is called with at point `t`, the windows one by one, -/
def bodyPre8 (q : Fin cfg8.W → PosShare TreeShare) (c : Dev nD) (t : Fin cfg8.N) : sProp 𝕄 :=
  iprop((dat8 V q c).Φ t.castSucc ∗ (dat8 V q c).owesAt () t.castSucc
    ∗ (∃ d, owns (c : Thread nD τ) (st8_0 t) fullShare ((dat8 V q c).before 0 t d))
    ∗ (∃ d, owns (c : Thread nD τ) (st8_1 t) fullShare ((dat8 V q c).before 1 t d))
    ∗ (∃ d, owns (c : Thread nD τ) (st8_2 t) fullShare ((dat8 V q c).before 2 t d)))

/-- and what it returns. -/
def bodyPost8 (q : Fin cfg8.W → PosShare TreeShare) (c : Dev nD) (t : Fin cfg8.N) : sProp 𝕄 :=
  iprop((dat8 V q c).Φ t.succ ∗ (dat8 V q c).owesAt () t.succ
    ∗ owns (c : Thread nD τ) (st8_0 t) fullShare ((dat8 V q c).after 0 t)
    ∗ owns (c : Thread nD τ) (st8_1 t) fullShare ((dat8 V q c).after 1 t)
    ∗ owns (c : Thread nD τ) (st8_2 t) fullShare ((dat8 V q c).after 2 t))

/-- The body at any point: the inputs' memrefs hold their blocks, so the body's triple applies; the invariant and
    the core's tallies pass through unread. -/
theorem sound_body8 (q : Fin cfg8.W → PosShare TreeShare) (c : Dev nD) (t : Fin cfg8.N) :
    bodyPre8 V q c t ⊢ wp frame (wpE (defs₀ (F := F)) Variants.none c none) Set.univ (bodyAt8 t) (fun _ => bodyPost8 V q c t) := by
  unfold bodyPre8 bodyPost8 bodyAt8
  simp only [before8_0, before8_1]
  rw [show (dat8 V q c).Φ t.succ = (dat8 V q c).Φ t.castSucc from rfl,
    show (dat8 V q c).owesAt () t.succ = (dat8 V q c).owesAt () t.castSucc from rfl,
    after8_0, after8_1, after8_2]
  iintro ⟨HΦ, Ho, ⟨%d0, H0⟩, ⟨%d1, H1⟩, ⟨%d2, H2⟩⟩
  iapply (sound_kernel8 c Set.univ _ _ _ _ _ _ _ (iblk8 V c 0 t) (iblk8 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation8 (q : Fin cfg8.W → PosShare TreeShare) (c : Dev nD) :
    BodyObligation (dat8 (F := F) V q c) (defs₀ (F := F)) Variants.none () Set.univ := fun t => by
  rw [bigSep_W8', bigSep_W8']
  exact sound_body8 V q c t

end Region

end Cert.KernelIdeal.Hand

end
-- ==== Proof.KI.Chain.lean ====
/- The run of the program's @main over its nine kernel regions and the host stretches between them.

   Between segments the thread state is "every unscoped buffer of the TensorCore held whole at a valuation, the generator
   register at some state, nothing owed". The valuations are named at the regions only: E p is what region p is entered
   from (the fold of the stretches before it over what the previous region left), X p what it leaves — its output array at
   what the write-backs of its 256×256 blocks leave, every other buffer as found. Region p's proof data are the body
   half's, at the entry contents E p; regions 1, 6 and 8 read one array through both input windows and hold it as two
   half shares. The segments are the stretches' host segments and one region segment per kernel call, in the order of the
   printed @main; the launch theorem for a list of segments then gives the run, its last valuation read at the result
   buffer and at the twelve argument arrays, which no stretch writes and no region's output window names. -/
import proofs.«146970_j35948876268088_1_alg».proof.Proof.KI.LaunchD
import proofs.«146970_j35948876268088_1_alg».proof.Proof.Gen.KernelIdeal.Skeleton
import proofs.«146970_j35948876268088_1_alg».proof.Proof.Gen.KernelIdeal.Points
import proofs.«146970_j35948876268088_1_alg».proof.Proof.LibRegionSeg
import proofs.«146970_j35948876268088_1_alg».proof.Proof.KI.Stretches
import proofs.«146970_j35948876268088_1_alg».proof.Proof.KI.Shared
import proofs.«146970_j35948876268088_1_alg».proof.Proof.KI.Body0
import proofs.«146970_j35948876268088_1_alg».proof.Proof.KI.Body1
import proofs.«146970_j35948876268088_1_alg».proof.Proof.KI.Body2
import proofs.«146970_j35948876268088_1_alg».proof.Proof.KI.Body3
import proofs.«146970_j35948876268088_1_alg».proof.Proof.KI.Body4
import proofs.«146970_j35948876268088_1_alg».proof.Proof.KI.Body5
import proofs.«146970_j35948876268088_1_alg».proof.Proof.KI.Body6
import proofs.«146970_j35948876268088_1_alg».proof.Proof.KI.Body7
import proofs.«146970_j35948876268088_1_alg».proof.Proof.KI.Body8
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.GenP

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Shares, and a valuation read at the TensorCore's references -/

/-- Every array at the full share (the regions whose windows sit on distinct arrays). -/
abbrev qF : Fin 3 → PosShare TreeShare := fun _ => fullShare
/-- The shared input array as its two halves, the output array whole (regions 1, 6, 8). -/
def qS : Fin 3 → PosShare TreeShare := fun | 0 => fullShare.left | 1 => fullShare.right | _ => fullShare

abbrev tcV (E : Dev nD → Valuation τ sig (Elt F)) : (c : Dev nD) → (b : Ref sig .tc) → Buf (Elt F) ((c : Thread nD τ).loc b) :=
  fun c b => E c b

/-! ## The valuations at the regions -/

/-- Core c's buffers at launch. -/
abbrev Wl : Dev nD → Valuation τ sig (Elt F) := fun c b => (s₀ m ρ).mem ((c : Dev nD), b)
/-- What region 0 is entered from. -/
abbrev E0 : Dev nD → Valuation τ sig (Elt F) := fun c => Pipeline.afterStretches st0 (Wl m ρ c)
/-- What region 0 leaves. -/
def X0 (c : Dev nD) : Valuation τ sig (Elt F) :=
  Pipeline.withArrays spec0 c (E0 m ρ c) fun w => (dat0 (tcV (E0 m ρ)) qF c).arrAt w cfg0.N
/-- What region 1 is entered from. -/
abbrev E1 : Dev nD → Valuation τ sig (Elt F) := fun c => Pipeline.afterStretches st1 (X0 m ρ c)
/-- What region 1 leaves. -/
def X1 (c : Dev nD) : Valuation τ sig (Elt F) := left1 c (E1 m ρ c) (dat1 (tcV (E1 m ρ)) qS c)
/-- What region 2 is entered from. -/
abbrev E2 : Dev nD → Valuation τ sig (Elt F) := fun c => Pipeline.afterStretches st2 (X1 m ρ c)
/-- What region 2 leaves. -/
def X2 (c : Dev nD) : Valuation τ sig (Elt F) :=
  Pipeline.withArrays spec2 c (E2 m ρ c) fun w => (dat2 (tcV (E2 m ρ)) qF c).arrAt w cfg2.N
/-- What region 3 is entered from. -/
abbrev E3 : Dev nD → Valuation τ sig (Elt F) := fun c => Pipeline.afterStretches st3 (X2 m ρ c)
/-- What region 3 leaves. -/
def X3 (c : Dev nD) : Valuation τ sig (Elt F) :=
  Pipeline.withArrays spec3 c (E3 m ρ c) fun w => (dat3 (tcV (E3 m ρ)) qF c).arrAt w cfg3.N
/-- What region 4 is entered from. -/
abbrev E4 : Dev nD → Valuation τ sig (Elt F) := fun c => Pipeline.afterStretches st4 (X3 m ρ c)
/-- What region 4 leaves. -/
def X4 (c : Dev nD) : Valuation τ sig (Elt F) :=
  Pipeline.withArrays spec4 c (E4 m ρ c) fun w => (dat4 (tcV (E4 m ρ)) qF c).arrAt w cfg4.N
/-- What region 5 is entered from. -/
abbrev E5 : Dev nD → Valuation τ sig (Elt F) := fun c => Pipeline.afterStretches st5 (X4 m ρ c)
/-- What region 5 leaves. -/
def X5 (c : Dev nD) : Valuation τ sig (Elt F) :=
  Pipeline.withArrays spec5 c (E5 m ρ c) fun w => (dat5 (tcV (E5 m ρ)) qF c).arrAt w cfg5.N
/-- What region 6 is entered from. -/
abbrev E6 : Dev nD → Valuation τ sig (Elt F) := fun c => Pipeline.afterStretches st6 (X5 m ρ c)
/-- What region 6 leaves. -/
def X6 (c : Dev nD) : Valuation τ sig (Elt F) := left6 c (E6 m ρ c) (dat6 (tcV (E6 m ρ)) qS c)
/-- What region 7 is entered from. -/
abbrev E7 : Dev nD → Valuation τ sig (Elt F) := fun c => Pipeline.afterStretches st7 (X6 m ρ c)
/-- What region 7 leaves. -/
def X7 (c : Dev nD) : Valuation τ sig (Elt F) :=
  Pipeline.withArrays spec7 c (E7 m ρ c) fun w => (dat7 (tcV (E7 m ρ)) qF c).arrAt w cfg7.N
/-- What region 8 is entered from. -/
abbrev E8 : Dev nD → Valuation τ sig (Elt F) := fun c => Pipeline.afterStretches st8 (X7 m ρ c)
/-- What region 8 leaves. -/
def X8 (c : Dev nD) : Valuation τ sig (Elt F) := left8 c (E8 m ρ c) (dat8 (tcV (E8 m ρ)) qS c)
/-- The buffers when @main returns. -/
abbrev Wend : Dev nD → Valuation τ sig (Elt F) := fun c => Pipeline.afterStretches st9 (X8 m ρ c)

/-! ## The proof data family and what rides along -/

/-- No pipeline has a prefetched table. -/
abbrev adm : (p : Fin 9) → (pcfgs (F := F) p).Adm := fun p => (cfgs p).toPCfg_adm
/-- Every pipeline's proof data, each at its region's entry contents: a literal match, so that the pinned
    configuration at a numeral reduces to the printed one. -/
def pdats : (p : Fin 9) → (c : Dev nD) → Dat τ (Elt F) Unit ℕ (UR sig nD τ) ℕ (Pipeline.pin (pcfgs (F := F)) adm p) c
  | ⟨0, _⟩ => fun c => dat0 (tcV (E0 m ρ)) qF c
  | ⟨1, _⟩ => fun c => dat1 (tcV (E1 m ρ)) qS c
  | ⟨2, _⟩ => fun c => dat2 (tcV (E2 m ρ)) qF c
  | ⟨3, _⟩ => fun c => dat3 (tcV (E3 m ρ)) qF c
  | ⟨4, _⟩ => fun c => dat4 (tcV (E4 m ρ)) qF c
  | ⟨5, _⟩ => fun c => dat5 (tcV (E5 m ρ)) qF c
  | ⟨6, _⟩ => fun c => dat6 (tcV (E6 m ρ)) qS c
  | ⟨7, _⟩ => fun c => dat7 (tcV (E7 m ρ)) qF c
  | ⟨8, _⟩ => fun c => dat8 (tcV (E8 m ρ)) qS c
abbrev 𝒱₀ : Variants := Variants.none
/-- No core owes another anything: no level is assigned. -/
abbrev L : GSem nD τ sig → Finset Unit := fun _ => ∅
abbrev lv : GSem nD τ sig → Unit → ℕ := fun _ _ => 0

/-- An output window's array is no argument array. -/
theorem out_notArg0 : ∀ w : Fin 3, (cfg0.win w).isOut = true → notArg (Pipeline.arrRef spec0 w) := by decide
theorem out_notArg1 : ∀ w : Fin 3, (cfg1.win w).isOut = true → notArg (Pipeline.arrRef spec1 w) := by decide
theorem out_notArg2 : ∀ w : Fin 3, (cfg2.win w).isOut = true → notArg (Pipeline.arrRef spec2 w) := by decide
theorem out_notArg3 : ∀ w : Fin 3, (cfg3.win w).isOut = true → notArg (Pipeline.arrRef spec3 w) := by decide
theorem out_notArg4 : ∀ w : Fin 3, (cfg4.win w).isOut = true → notArg (Pipeline.arrRef spec4 w) := by decide
theorem out_notArg5 : ∀ w : Fin 3, (cfg5.win w).isOut = true → notArg (Pipeline.arrRef spec5 w) := by decide
theorem out_notArg6 : ∀ w : Fin 3, (cfg6.win w).isOut = true → notArg (Pipeline.arrRef spec6 w) := by decide
theorem out_notArg7 : ∀ w : Fin 3, (cfg7.win w).isOut = true → notArg (Pipeline.arrRef spec7 w) := by decide
theorem out_notArg8 : ∀ w : Fin 3, (cfg8.win w).isOut = true → notArg (Pipeline.arrRef spec8 w) := by decide

/-! ## The regions as segments -/

set_option backward.isDefEq.respectTransparency.types false in
/-- Region 0: its windows sit on three distinct arrays, each held whole. -/
def reg0 : Pipeline.RegionSeg (pcfgs (F := F)) adm (pdats m ρ) () defs₀ 𝒱₀ L lv 0 :=
  Pipeline.RegionSeg.ofClassInvDistinct (pcfgs (F := F)) adm (pdats m ρ) defs₀ 𝒱₀ L lv 0 launch0.win launch0.arr_whole
    launch0.block_pos launch0.stage_whole
    (fun c => (body_obligation0 (tcV (E0 m ρ)) qF c).loose)
    (fun _ _ => rfl) (fun _ _ => rfl) (fun _ _ => rfl)
    (fun c => by unfold Pipeline.prefHeld; rw [show (Finset.univ : Finset (Fin 0)) = ∅ from rfl, BI.bigSep_empty])
    (fun c => (pdats m ρ 0 c).share_full fun _ => rfl)
    (E0 m ρ) (fun _ _ => rfl)

set_option backward.isDefEq.respectTransparency.types false in
/-- Region 1: both input windows read one array, held as its two half shares. -/
def reg1 : Pipeline.RegionSeg (pcfgs (F := F)) adm (pdats m ρ) () defs₀ 𝒱₀ L lv 1 :=
  Pipeline.RegionSeg.ofClassInv (pcfgs (F := F)) adm (pdats m ρ) defs₀ 𝒱₀ L lv 1 winFacts₀1 block_pos1 stage_whole1
    (fun c => (body_obligation1 (tcV (E1 m ρ)) qS c).loose)
    (fun _ _ => rfl) (fun _ _ => rfl) (fun _ _ => rfl)
    (fun c => by unfold Pipeline.prefHeld; rw [show (Finset.univ : Finset (Fin 0)) = ∅ from rfl, BI.bigSep_empty])
    (E1 m ρ) (X1 m ρ)
    (fun c => split1 c (dat1 (tcV (E1 m ρ)) qS c) rfl rfl (E1 m ρ c) (fun _ => rfl))
    (fun c => join1 c (dat1 (tcV (E1 m ρ)) qS c) rfl rfl (E1 m ρ c) (fun _ => rfl))

set_option backward.isDefEq.respectTransparency.types false in
/-- Region 2: its windows sit on three distinct arrays, each held whole. -/
def reg2 : Pipeline.RegionSeg (pcfgs (F := F)) adm (pdats m ρ) () defs₀ 𝒱₀ L lv 2 :=
  Pipeline.RegionSeg.ofClassInvDistinct (pcfgs (F := F)) adm (pdats m ρ) defs₀ 𝒱₀ L lv 2 launch2.win launch2.arr_whole
    launch2.block_pos launch2.stage_whole
    (fun c => (body_obligation2 (tcV (E2 m ρ)) qF c).loose)
    (fun _ _ => rfl) (fun _ _ => rfl) (fun _ _ => rfl)
    (fun c => by unfold Pipeline.prefHeld; rw [show (Finset.univ : Finset (Fin 0)) = ∅ from rfl, BI.bigSep_empty])
    (fun c => (pdats m ρ 2 c).share_full fun _ => rfl)
    (E2 m ρ) (fun _ _ => rfl)

set_option backward.isDefEq.respectTransparency.types false in
/-- Region 3: its windows sit on three distinct arrays, each held whole. -/
def reg3 : Pipeline.RegionSeg (pcfgs (F := F)) adm (pdats m ρ) () defs₀ 𝒱₀ L lv 3 :=
  Pipeline.RegionSeg.ofClassInvDistinct (pcfgs (F := F)) adm (pdats m ρ) defs₀ 𝒱₀ L lv 3 launch3.win launch3.arr_whole
    launch3.block_pos launch3.stage_whole
    (fun c => (body_obligation3 (tcV (E3 m ρ)) qF c).loose)
    (fun _ _ => rfl) (fun _ _ => rfl) (fun _ _ => rfl)
    (fun c => by unfold Pipeline.prefHeld; rw [show (Finset.univ : Finset (Fin 0)) = ∅ from rfl, BI.bigSep_empty])
    (fun c => (pdats m ρ 3 c).share_full fun _ => rfl)
    (E3 m ρ) (fun _ _ => rfl)

set_option backward.isDefEq.respectTransparency.types false in
/-- Region 4: its windows sit on three distinct arrays, each held whole. -/
def reg4 : Pipeline.RegionSeg (pcfgs (F := F)) adm (pdats m ρ) () defs₀ 𝒱₀ L lv 4 :=
  Pipeline.RegionSeg.ofClassInvDistinct (pcfgs (F := F)) adm (pdats m ρ) defs₀ 𝒱₀ L lv 4 launch4.win launch4.arr_whole
    launch4.block_pos launch4.stage_whole
    (fun c => (body_obligation4 (tcV (E4 m ρ)) qF c).loose)
    (fun _ _ => rfl) (fun _ _ => rfl) (fun _ _ => rfl)
    (fun c => by unfold Pipeline.prefHeld; rw [show (Finset.univ : Finset (Fin 0)) = ∅ from rfl, BI.bigSep_empty])
    (fun c => (pdats m ρ 4 c).share_full fun _ => rfl)
    (E4 m ρ) (fun _ _ => rfl)

set_option backward.isDefEq.respectTransparency.types false in
/-- Region 5: its windows sit on three distinct arrays, each held whole. -/
def reg5 : Pipeline.RegionSeg (pcfgs (F := F)) adm (pdats m ρ) () defs₀ 𝒱₀ L lv 5 :=
  Pipeline.RegionSeg.ofClassInvDistinct (pcfgs (F := F)) adm (pdats m ρ) defs₀ 𝒱₀ L lv 5 launch5.win launch5.arr_whole
    launch5.block_pos launch5.stage_whole
    (fun c => (body_obligation5 (tcV (E5 m ρ)) qF c).loose)
    (fun _ _ => rfl) (fun _ _ => rfl) (fun _ _ => rfl)
    (fun c => by unfold Pipeline.prefHeld; rw [show (Finset.univ : Finset (Fin 0)) = ∅ from rfl, BI.bigSep_empty])
    (fun c => (pdats m ρ 5 c).share_full fun _ => rfl)
    (E5 m ρ) (fun _ _ => rfl)

set_option backward.isDefEq.respectTransparency.types false in
/-- Region 6: both input windows read one array, held as its two half shares. -/
def reg6 : Pipeline.RegionSeg (pcfgs (F := F)) adm (pdats m ρ) () defs₀ 𝒱₀ L lv 6 :=
  Pipeline.RegionSeg.ofClassInv (pcfgs (F := F)) adm (pdats m ρ) defs₀ 𝒱₀ L lv 6 winFacts₀6 block_pos6 stage_whole6
    (fun c => (body_obligation6 (tcV (E6 m ρ)) qS c).loose)
    (fun _ _ => rfl) (fun _ _ => rfl) (fun _ _ => rfl)
    (fun c => by unfold Pipeline.prefHeld; rw [show (Finset.univ : Finset (Fin 0)) = ∅ from rfl, BI.bigSep_empty])
    (E6 m ρ) (X6 m ρ)
    (fun c => split6 c (dat6 (tcV (E6 m ρ)) qS c) rfl rfl (E6 m ρ c) (fun _ => rfl))
    (fun c => join6 c (dat6 (tcV (E6 m ρ)) qS c) rfl rfl (E6 m ρ c) (fun _ => rfl))

set_option backward.isDefEq.respectTransparency.types false in
/-- Region 7: its windows sit on three distinct arrays, each held whole. -/
def reg7 : Pipeline.RegionSeg (pcfgs (F := F)) adm (pdats m ρ) () defs₀ 𝒱₀ L lv 7 :=
  Pipeline.RegionSeg.ofClassInvDistinct (pcfgs (F := F)) adm (pdats m ρ) defs₀ 𝒱₀ L lv 7 launch7.win launch7.arr_whole
    launch7.block_pos launch7.stage_whole
    (fun c => (body_obligation7 (tcV (E7 m ρ)) qF c).loose)
    (fun _ _ => rfl) (fun _ _ => rfl) (fun _ _ => rfl)
    (fun c => by unfold Pipeline.prefHeld; rw [show (Finset.univ : Finset (Fin 0)) = ∅ from rfl, BI.bigSep_empty])
    (fun c => (pdats m ρ 7 c).share_full fun _ => rfl)
    (E7 m ρ) (fun _ _ => rfl)

set_option backward.isDefEq.respectTransparency.types false in
/-- Region 8: both input windows read one array, held as its two half shares. -/
def reg8 : Pipeline.RegionSeg (pcfgs (F := F)) adm (pdats m ρ) () defs₀ 𝒱₀ L lv 8 :=
  Pipeline.RegionSeg.ofClassInv (pcfgs (F := F)) adm (pdats m ρ) defs₀ 𝒱₀ L lv 8 winFacts₀8 block_pos8 stage_whole8
    (fun c => (body_obligation8 (tcV (E8 m ρ)) qS c).loose)
    (fun _ _ => rfl) (fun _ _ => rfl) (fun _ _ => rfl)
    (fun c => by unfold Pipeline.prefHeld; rw [show (Finset.univ : Finset (Fin 0)) = ∅ from rfl, BI.bigSep_empty])
    (E8 m ρ) (X8 m ρ)
    (fun c => split8 c (dat8 (tcV (E8 m ρ)) qS c) rfl rfl (E8 m ρ c) (fun _ => rfl))
    (fun c => join8 c (dat8 (tcV (E8 m ρ)) qS c) rfl rfl (E8 m ρ c) (fun _ => rfl))

/-! ## @main as segments -/

abbrev hs (l : List (HS F)) (W : Dev nD → Valuation τ sig (Elt F)) :
    List (Pipeline.Seg (pcfgs (F := F)) adm (pdats m ρ) () defs₀ 𝒱₀ L lv) :=
  Pipeline.hostSegs (pcfgs (F := F)) adm (pdats m ρ) defs₀ 𝒱₀ L lv l W

/-- @main's segments in order. -/
def segs : List (Pipeline.Seg (pcfgs (F := F)) adm (pdats m ρ) () defs₀ 𝒱₀ L lv) :=
  hs m ρ st0 (Wl m ρ) ++ (.region (reg0 m ρ) ::
  (hs m ρ st1 (X0 m ρ) ++ (.region (reg1 m ρ) ::
  (hs m ρ st2 (X1 m ρ) ++ (.region (reg2 m ρ) ::
  (hs m ρ st3 (X2 m ρ) ++ (.region (reg3 m ρ) ::
  (hs m ρ st4 (X3 m ρ) ++ (.region (reg4 m ρ) ::
  (hs m ρ st5 (X4 m ρ) ++ (.region (reg5 m ρ) ::
  (hs m ρ st6 (X5 m ρ) ++ (.region (reg6 m ρ) ::
  (hs m ρ st7 (X6 m ρ) ++ (.region (reg7 m ρ) ::
  (hs m ρ st8 (X7 m ρ) ++ (.region (reg8 m ρ) ::
  (hs m ρ st9 (X8 m ρ) ++ []))))))))))))))))))

/-- @main IS the run of the segments: the generated chain of @main's items against the segments' programs. -/
theorem main_run (c : Dev nD) : main (F := F) c = Pipeline.Seg.run (segs m ρ) := (main_chain c).trans (by chain_rfl)

/-- The last thread state without the owes. -/
abbrev Tₙ (c : Dev nD) : sProp 𝕄 := iprop(StableHlo.held (c : Thread nD τ) (Pipeline.ucRefs τ sig) (Wend m ρ c) ∗ ∃ r, prngReg c r)

set_option backward.isDefEq.respectTransparency.types false in
/-- The segments' thread states chain from the launch's to the last. -/
theorem segs_chain : Pipeline.Seg.Chains (fun c => iprop(StableHlo.held (c : Thread nD τ) (Pipeline.ucRefs τ sig) (Wl m ρ c) ∗ Pipeline.besideBufs (U := UR sig nD τ) c))
    (segs m ρ) (fun c => iprop(Tₙ m ρ c ∗ ∃ W, owes (c : Thread nD τ) (0 : CellTallies nD τ sig Unit) W)) := by
  unfold segs
  refine Pipeline.chains_hostSegs _ _ _ _ _ _ _ st0 _ _ _ ⟨fun _ => .rfl, ?_⟩
  refine Pipeline.chains_hostSegs _ _ _ _ _ _ _ st1 _ _ _ ⟨fun _ => .rfl, ?_⟩
  refine Pipeline.chains_hostSegs _ _ _ _ _ _ _ st2 _ _ _ ⟨fun _ => .rfl, ?_⟩
  refine Pipeline.chains_hostSegs _ _ _ _ _ _ _ st3 _ _ _ ⟨fun _ => .rfl, ?_⟩
  refine Pipeline.chains_hostSegs _ _ _ _ _ _ _ st4 _ _ _ ⟨fun _ => .rfl, ?_⟩
  refine Pipeline.chains_hostSegs _ _ _ _ _ _ _ st5 _ _ _ ⟨fun _ => .rfl, ?_⟩
  refine Pipeline.chains_hostSegs _ _ _ _ _ _ _ st6 _ _ _ ⟨fun _ => .rfl, ?_⟩
  refine Pipeline.chains_hostSegs _ _ _ _ _ _ _ st7 _ _ _ ⟨fun _ => .rfl, ?_⟩
  refine Pipeline.chains_hostSegs _ _ _ _ _ _ _ st8 _ _ _ ⟨fun _ => .rfl, ?_⟩
  refine Pipeline.chains_hostSegs _ _ _ _ _ _ _ st9 _ _ _ ?_
  intro c
  iintro ⟨Hh, Hp, HO⟩
  isplitl [Hh Hp]
  · isplitl [Hh] <;> iassumption
  iexact HO

/-! ## The arguments end as launched -/

set_option maxHeartbeats 4000000 in
/-- An argument array's buffer holds at the end what it held at launch: no stretch writes it, and no region's
    output window names it. -/
theorem Wend_arg (c : Dev nD) (r : Ref sig .tc) (hr : ¬ notArg r) : Wend m ρ c (Proc.devRef .tc r) = m ((c : Thread nD τ).loc r) := by
  have hst : ∀ (l : List (HS F)) (V : Valuation τ sig (Elt F)), Pipeline.afterStretches l V (Proc.devRef .tc r) = V (Proc.devRef .tc r) :=
    fun l V => Pipeline.afterStretches_spared hr l V
  have hx8 : X8 m ρ c (Proc.devRef .tc r) = E8 m ρ c (Proc.devRef .tc r) := by
    unfold X8
    exact Pipeline.withArrays_of_ne (fun _ : Fin 1 => spec8 2) c _ _ r fun _ e => hr (e ▸ out_notArg8 2 rfl)
  have hx7 : X7 m ρ c (Proc.devRef .tc r) = E7 m ρ c (Proc.devRef .tc r) := by
    unfold X7
    exact Pipeline.withArrays_arrAt_spared (dat7 (tcV (E7 m ρ)) qF c) launch7.win.arr_inj (E7 m ρ c) (fun _ => rfl) r
      fun w hw e => hr (e ▸ out_notArg7 w hw)
  have hx6 : X6 m ρ c (Proc.devRef .tc r) = E6 m ρ c (Proc.devRef .tc r) := by
    unfold X6
    exact Pipeline.withArrays_of_ne (fun _ : Fin 1 => spec6 2) c _ _ r fun _ e => hr (e ▸ out_notArg6 2 rfl)
  have hx5 : X5 m ρ c (Proc.devRef .tc r) = E5 m ρ c (Proc.devRef .tc r) := by
    unfold X5
    exact Pipeline.withArrays_arrAt_spared (dat5 (tcV (E5 m ρ)) qF c) launch5.win.arr_inj (E5 m ρ c) (fun _ => rfl) r
      fun w hw e => hr (e ▸ out_notArg5 w hw)
  have hx4 : X4 m ρ c (Proc.devRef .tc r) = E4 m ρ c (Proc.devRef .tc r) := by
    unfold X4
    exact Pipeline.withArrays_arrAt_spared (dat4 (tcV (E4 m ρ)) qF c) launch4.win.arr_inj (E4 m ρ c) (fun _ => rfl) r
      fun w hw e => hr (e ▸ out_notArg4 w hw)
  have hx3 : X3 m ρ c (Proc.devRef .tc r) = E3 m ρ c (Proc.devRef .tc r) := by
    unfold X3
    exact Pipeline.withArrays_arrAt_spared (dat3 (tcV (E3 m ρ)) qF c) launch3.win.arr_inj (E3 m ρ c) (fun _ => rfl) r
      fun w hw e => hr (e ▸ out_notArg3 w hw)
  have hx2 : X2 m ρ c (Proc.devRef .tc r) = E2 m ρ c (Proc.devRef .tc r) := by
    unfold X2
    exact Pipeline.withArrays_arrAt_spared (dat2 (tcV (E2 m ρ)) qF c) launch2.win.arr_inj (E2 m ρ c) (fun _ => rfl) r
      fun w hw e => hr (e ▸ out_notArg2 w hw)
  have hx1 : X1 m ρ c (Proc.devRef .tc r) = E1 m ρ c (Proc.devRef .tc r) := by
    unfold X1
    exact Pipeline.withArrays_of_ne (fun _ : Fin 1 => spec1 2) c _ _ r fun _ e => hr (e ▸ out_notArg1 2 rfl)
  have hx0 : X0 m ρ c (Proc.devRef .tc r) = E0 m ρ c (Proc.devRef .tc r) := by
    unfold X0
    exact Pipeline.withArrays_arrAt_spared (dat0 (tcV (E0 m ρ)) qF c) launch0.win.arr_inj (E0 m ρ c) (fun _ => rfl) r
      fun w hw e => hr (e ▸ out_notArg0 w hw)
  exact (hst st9 _).trans <| hx8.trans <| (hst st8 _).trans <| hx7.trans <| (hst st7 _).trans <| hx6.trans <| (hst st6 _).trans <|
    hx5.trans <| (hst st5 _).trans <| hx4.trans <| (hst st4 _).trans <| hx3.trans <| (hst st3 _).trans <| hx2.trans <|
    (hst st2 _).trans <| hx1.trans <| (hst st1 _).trans <| hx0.trans <| (hst st0 _).trans rfl

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The run -/

set_option backward.isDefEq.respectTransparency.types false in
/-- THE RUN, at any F: from any memory with zero counters, every weakly fair execution of @main on the TensorCores
    terminates, nothing faulting, and every final state has the result buffer at the last valuation and the twelve
    argument arrays as launched. -/
theorem run : θ_run defs (onTc (τ := τ) (main (F := F))) ⟨m, fun _ => 0, ρ⟩ (fun r => ∀ c : Dev nD,
      r.2.mem ((c.tc : Thread nD τ).loc main_v796) = Wend m ρ c (Proc.devRef .tc main_v796)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by
      unfold segs
      simp only [hs, Pipeline.pipes_hostSegs, Pipeline.Seg.pipes_region, Pipeline.Seg.pipes_nil]
      decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Wl m ρ c) ∗ Pipeline.besideBufs (U := UR sig nD τ) c)) (Tₙ := Tₙ m ρ)
    (hch := segs_chain m ρ)
    (hinit := by
      refine Pipeline.initEach L lv fun c => ?_
      rw [show unscopedBufs c (fun b => m ((c : Thread nD τ).loc b)) = StableHlo.held (c : Thread nD τ) (Pipeline.ucRefs τ sig) (Wl m ρ c)
        from Pipeline.unscopedBufs_held c (Wl m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wend m ρ c b)
    (hfin := fun c s' => by
      iintro ⟨⟨Hh, -⟩, HSI⟩
      unfold StableHlo.held
      imodintro
      iapply (pointsTo_read_all (Pipeline.ucRefs τ sig) (fun b => (((c : Thread nD τ)).1, b)) (Wend m ρ c) s')
      isplitl [Hh] <;> iassumption)
    (hQ := fun s h c =>
      ⟨h c _ (mem_uc main_v796 (by decide)),
       (h c _ (mem_uc main_arg0 (by decide))).trans (Wend_arg m ρ c main_arg0 (by decide)),
       (h c _ (mem_uc main_arg1 (by decide))).trans (Wend_arg m ρ c main_arg1 (by decide)),
       (h c _ (mem_uc main_arg2 (by decide))).trans (Wend_arg m ρ c main_arg2 (by decide)),
       (h c _ (mem_uc main_arg3 (by decide))).trans (Wend_arg m ρ c main_arg3 (by decide)),
       (h c _ (mem_uc main_arg4 (by decide))).trans (Wend_arg m ρ c main_arg4 (by decide)),
       (h c _ (mem_uc main_arg5 (by decide))).trans (Wend_arg m ρ c main_arg5 (by decide)),
       (h c _ (mem_uc main_arg6 (by decide))).trans (Wend_arg m ρ c main_arg6 (by decide)),
       (h c _ (mem_uc main_arg7 (by decide))).trans (Wend_arg m ρ c main_arg7 (by decide)),
       (h c _ (mem_uc main_arg8 (by decide))).trans (Wend_arg m ρ c main_arg8 (by decide)),
       (h c _ (mem_uc main_arg9 (by decide))).trans (Wend_arg m ρ c main_arg9 (by decide)),
       (h c _ (mem_uc main_arg10 (by decide))).trans (Wend_arg m ρ c main_arg10 (by decide)),
       (h c _ (mem_uc main_arg11 (by decide))).trans (Wend_arg m ρ c main_arg11 (by decide))⟩)

end Cert.KernelIdeal.Hand

end
-- ==== Proof.FrameKI.lean ====
/- The idealized program's frame: the same run read at the ideal instance, with the result dropped. -/
import proofs.«146970_j35948876268088_1_alg».proof.Defs
import proofs.«146970_j35948876268088_1_alg».proof.Proof.Gen.KernelIdeal
import proofs.«146970_j35948876268088_1_alg».proof.Proof.Gen.Pre_finite_inputs
import proofs.«146970_j35948876268088_1_alg».proof.Proof.KI.Chain

noncomputable section

namespace Cert.Proof

open Idealize.ShloMosaic Idealize.SL.Sem

theorem frame_ki : Cert.frame_KernelIdeal (hKernelIdeal := Cert.KernelIdeal.Gen.facts) (hPre_finite_inputs := Cert.Pre_finite_inputs.Gen.facts) := fun m ρ _ =>
  (θ_run (Cert.KernelIdeal.defs (F := Ideal)) _ _).mono (fun _ h c => (h c).2) (Cert.KernelIdeal.Hand.run (F := Ideal) m ρ)

end Cert.Proof

end
-- ==== Proof.Ref.Keep.lean ====
/-
  Straight-line host programs whose operations all write buffers past the first `n` of their space:
  the three facts about one operation that a run of the line needs (it touches TensorCore references
  only, it determines every buffer it writes, and every buffer it writes has index at least `n`),
  bundled as `Good n`, proved once per builder, and carried through concatenation. From a list of
  `Good n` operations: the fold `after` keeps every buffer of index below `n`.
-/
import Idealize.ShloMosaic.Lib.StableHlo.Run

noncomputable section

namespace Cert.ReferenceIdeal.Hand

open Idealize.ShloMosaic Idealize.ShloMosaic.StableHlo Idealize.SL.Sem

variable {τ : Topo} {sig : RefSig} {Val : EltTy → Type}

/-- What a straight-line run asks of one operation, and that it writes no buffer of index below `n`. -/
structure Good (n : Nat) (op : HloOp τ sig Val) : Prop where
  /-- It touches TensorCore references only. -/
  sub : op.bufs ⊆ tcRefs τ sig
  /-- It determines every buffer it writes. -/
  fresh : op.fresh = ∅
  /-- Every reference it writes has index at least `n`. -/
  high : ∀ r : Ref sig .tc, Proc.devRef (τ := τ) .tc r ∈ op.writes → n ≤ r.idx.val

/-- A set of one buffer of index at least `n` holds no reference of smaller index. -/
theorem high_single {n : Nat} {y : Ref sig .tc} (h : n ≤ y.idx.val) :
    ∀ r : Ref sig .tc, Proc.devRef (τ := τ) .tc r ∈ ({Proc.devRef .tc y} : Finset (DevRef τ sig)) → n ≤ r.idx.val :=
  fun _ hr => (Proc.devRef_injective _ (Finset.mem_singleton.mp hr)) ▸ h

section Builders

variable (x a b c y : Ref sig .tc) {n : Nat}

theorem nullary_good (v : y.ty.Contents Val) (hy) (h : n ≤ y.idx.val) : Good n (nullary (τ := τ) y v hy) :=
  ⟨nullary_bufs_sub .., rfl, high_single h⟩
theorem unary_good (f : x.ty.Contents Val → y.ty.Contents Val) (hx hy) (h : n ≤ y.idx.val) :
    Good n (unary (τ := τ) x y f hx hy) :=
  ⟨unary_bufs_sub .., rfl, high_single h⟩
theorem binary_good (f : a.ty.Contents Val → b.ty.Contents Val → y.ty.Contents Val) (ha hb hy) (h : n ≤ y.idx.val) :
    Good n (binary (τ := τ) a b y f ha hb hy) :=
  ⟨binary_bufs_sub .., rfl, high_single h⟩
theorem ternary_good (f : c.ty.Contents Val → a.ty.Contents Val → b.ty.Contents Val → y.ty.Contents Val) (hc ha hb hy)
    (h : n ≤ y.idx.val) : Good n (ternary (τ := τ) c a b y f hc ha hb hy) :=
  ⟨ternary_bufs_sub .., rfl, high_single h⟩
theorem reshape_good (he hn hx hy) (h : n ≤ y.idx.val) : Good n (reshape (τ := τ) (Val := Val) x y he hn hx hy) :=
  ⟨reshape_bufs_sub .., rfl, high_single h⟩
theorem nary_good {k : Nat} (xs : Fin k → Ref sig .tc) (f : ((i : Fin k) → (xs i).ty.Contents Val) → y.ty.Contents Val)
    (hxs hy) (h : n ≤ y.idx.val) : Good n (nary (τ := τ) xs y f hxs hy) :=
  ⟨nary_bufs_sub .., rfl, high_single h⟩

end Builders

variable {n : Nat} {ops l₁ l₂ : List (HloOp τ sig Val)}

/-- Two lines of good operations, concatenated. -/
theorem Good.append (h₁ : l₁.Forall (Good n)) (h₂ : l₂.Forall (Good n)) : (l₁ ++ l₂).Forall (Good n) :=
  List.forall_append.mpr ⟨h₁, h₂⟩

theorem Good.forall_sub (h : ops.Forall (Good n)) : ops.Forall fun op => op.bufs ⊆ tcRefs τ sig :=
  List.forall_iff_forall_mem.mpr fun op hop => (List.forall_iff_forall_mem.mp h op hop).sub

theorem Good.forall_fresh (h : ops.Forall (Good n)) : ∀ op ∈ ops, op.fresh = ∅ :=
  fun op hop => (List.forall_iff_forall_mem.mp h op hop).fresh

/-- A buffer of index below `n` is written by no operation of the line: it keeps its contents. -/
theorem after_keep (h : ops.Forall (Good n)) (V : Valuation τ sig Val) {r : Ref sig .tc} (hr : r.idx.val < n) :
    after ops V (Proc.devRef .tc r) = V (Proc.devRef .tc r) :=
  after_of_forall_not_mem ops V fun op hop hb =>
    absurd ((List.forall_iff_forall_mem.mp h op hop).high r hb) (Nat.not_le.mpr hr)

end Cert.ReferenceIdeal.Hand

end
-- ==== Proof.Ref.W00.lean ====
import proofs.«146970_j35948876268088_1_alg».proof.ReferenceIdeal.P01
import proofs.«146970_j35948876268088_1_alg».proof.Proof.Ref.Keep

noncomputable section

namespace Cert.ReferenceIdeal.Hand

open Cert.ReferenceIdeal Idealize.ShloMosaic Idealize.ShloMosaic.TcCoe Idealize.SL.Sem Idealize.ShloMosaic.StableHlo

variable {F : FTy → Type} [FloatOps F]

variable [Facts]
open Facts₀ Facts

set_option maxHeartbeats 4000000 in
/-- The operations of window 0, in order; a called function's operations stand in its call's place. -/
abbrev ops_part0 : List (HloOp τ sig (Elt F)) :=
  [ StableHlo.reshape main_arg0 main_v0 rfl shapeCasts_S6144x1x16x16_S3x2048x256,
    StableHlo.unary main_v0 main_v1 ((extractStridedSlice S1x2048x256 ![0, 0, 0] · slices_S3x2048x256_S1x2048x256_0_0_0) : (⟨S3x2048x256, .f32⟩ : BufTy).Contents (Elt F) → (⟨S1x2048x256, .f32⟩ : BufTy).Contents (Elt F)),
    StableHlo.reshape main_v1 main_v2 rfl shapeCasts_S1x2048x256_S2048x256,
    StableHlo.binary main_v2 main_v2 main_v3 (mulf : (⟨S2048x256, .f32⟩ : BufTy).Contents (Elt F) → (⟨S2048x256, .f32⟩ : BufTy).Contents (Elt F) → (⟨S2048x256, .f32⟩ : BufTy).Contents (Elt F)),
    StableHlo.nullary main_cst (constant S_ .f32 0x00000000#32),
    StableHlo.binary main_v3 main_cst main_v4 ((fun x v => Host.reduceAdd x v reducesTo_S2048x256_S2048_d1 h_S_) : (⟨S2048x256, .f32⟩ : BufTy).Contents (Elt F) → (⟨S_, .f32⟩ : BufTy).Contents (Elt F) → (⟨S2048, .f32⟩ : BufTy).Contents (Elt F)),
    StableHlo.unary main_v4 main_v5 (broadcastInDim S2048x1 ![0] bcast_S2048_S2048x1_0 : (⟨S2048, .f32⟩ : BufTy).Contents (Elt F) → (⟨S2048x1, .f32⟩ : BufTy).Contents (Elt F)),
    StableHlo.unary main_v4 main_v6 (broadcastInDim S1x2048 ![1] bcast_S2048_S1x2048_1 : (⟨S2048, .f32⟩ : BufTy).Contents (Elt F) → (⟨S1x2048, .f32⟩ : BufTy).Contents (Elt F)),
    StableHlo.unary main_v5 main_v7 (broadcastInDim S2048x2048 ![0, 1] bcast_S2048x1_S2048x2048_0_1 : (⟨S2048x1, .f32⟩ : BufTy).Contents (Elt F) → (⟨S2048x2048, .f32⟩ : BufTy).Contents (Elt F)),
    StableHlo.unary main_v6 main_v8 (broadcastInDim S2048x2048 ![0, 1] bcast_S1x2048_S2048x2048_0_1 : (⟨S1x2048, .f32⟩ : BufTy).Contents (Elt F) → (⟨S2048x2048, .f32⟩ : BufTy).Contents (Elt F)),
    StableHlo.binary main_v7 main_v8 main_v9 (addf : (⟨S2048x2048, .f32⟩ : BufTy).Contents (Elt F) → (⟨S2048x2048, .f32⟩ : BufTy).Contents (Elt F) → (⟨S2048x2048, .f32⟩ : BufTy).Contents (Elt F)),
    StableHlo.unary main_v2 main_v10 ((transpose S256x2048 [1, 0] · transposes_S2048x256_S256x2048_1_0) : (⟨S2048x256, .f32⟩ : BufTy).Contents (Elt F) → (⟨S256x2048, .f32⟩ : BufTy).Contents (Elt F)),
    StableHlo.binary main_v2 main_v10 main_v11 ((fun l r => Host.dotGeneral dot_S2048x256_S256x2048_S2048x2048_1_0_0_1_n_n none l r) : (⟨S2048x256, .f32⟩ : BufTy).Contents (Elt F) → (⟨S256x2048, .f32⟩ : BufTy).Contents (Elt F) → (⟨S2048x2048, .f32⟩ : BufTy).Contents (Elt F)),
    StableHlo.nullary main_cst_0 (constant S_ .f32 0x40000000#32),
    StableHlo.unary main_cst_0 main_v12 (broadcastInDim S2048x2048 ![] bcast_S_S2048x2048 : (⟨S_, .f32⟩ : BufTy).Contents (Elt F) → (⟨S2048x2048, .f32⟩ : BufTy).Contents (Elt F)),
    StableHlo.binary main_v12 main_v11 main_v13 (mulf : (⟨S2048x2048, .f32⟩ : BufTy).Contents (Elt F) → (⟨S2048x2048, .f32⟩ : BufTy).Contents (Elt F) → (⟨S2048x2048, .f32⟩ : BufTy).Contents (Elt F)),
    StableHlo.binary main_v9 main_v13 main_v14 (subf : (⟨S2048x2048, .f32⟩ : BufTy).Contents (Elt F) → (⟨S2048x2048, .f32⟩ : BufTy).Contents (Elt F) → (⟨S2048x2048, .f32⟩ : BufTy).Contents (Elt F)),
    StableHlo.unary main_v14 main_v15 (Host.absf : (⟨S2048x2048, .f32⟩ : BufTy).Contents (Elt F) → (⟨S2048x2048, .f32⟩ : BufTy).Contents (Elt F)),
    StableHlo.nullary main_cst_1 (constant S_ .f32 0x00000000#32),
    StableHlo.binary main_v15 main_cst_1 main_v16 ((fun x v => Host.reduceAdd x v reducesTo_S2048x2048_S_d0_1 h_S_) : (⟨S2048x2048, .f32⟩ : BufTy).Contents (Elt F) → (⟨S_, .f32⟩ : BufTy).Contents (Elt F) → (⟨S_, .f32⟩ : BufTy).Contents (Elt F)),
    StableHlo.nullary main_cst_2 (constant S_ .f32 0x4A800000#32),
    StableHlo.binary main_v16 main_cst_2 main_v17 (Host.divf : (⟨S_, .f32⟩ : BufTy).Contents (Elt F) → (⟨S_, .f32⟩ : BufTy).Contents (Elt F) → (⟨S_, .f32⟩ : BufTy).Contents (Elt F)),
    StableHlo.nullary main_cst_3 (constant S_ .f32 0x40A00000#32),
    StableHlo.binary main_v17 main_cst_3 main_v18 (Host.divf : (⟨S_, .f32⟩ : BufTy).Contents (Elt F) → (⟨S_, .f32⟩ : BufTy).Contents (Elt F) → (⟨S_, .f32⟩ : BufTy).Contents (Elt F)),
    StableHlo.unary main_v18 main_v19 (broadcastInDim S2048x2048 ![] bcast_S_S2048x2048 : (⟨S_, .f32⟩ : BufTy).Contents (Elt F) → (⟨S2048x2048, .f32⟩ : BufTy).Contents (Elt F)),
    StableHlo.binary main_v15 main_v19 main_v20 (cmpf .olt : (⟨S2048x2048, .f32⟩ : BufTy).Contents (Elt F) → (⟨S2048x2048, .f32⟩ : BufTy).Contents (Elt F) → (⟨S2048x2048, .i1⟩ : BufTy).Contents (Elt F)),
    StableHlo.unary main_v20 main_v21 (uitofp .f32 : (⟨S2048x2048, .i1⟩ : BufTy).Contents (Elt F) → (⟨S2048x2048, .f32⟩ : BufTy).Contents (Elt F)),
    StableHlo.unary main_v21 main_v22 ((transpose S2048x2048 [1, 0] · transposes_S2048x2048_S2048x2048_1_0) : (⟨S2048x2048, .f32⟩ : BufTy).Contents (Elt F) → (⟨S2048x2048, .f32⟩ : BufTy).Contents (Elt F)),
    StableHlo.binary main_v22 main_v21 main_v23 ((fun l r => Host.dotGeneral dot_S2048x2048_S2048x2048_S2048x2048_1_0_0_1_n_n none l r) : (⟨S2048x2048, .f32⟩ : BufTy).Contents (Elt F) → (⟨S2048x2048, .f32⟩ : BufTy).Contents (Elt F) → (⟨S2048x2048, .f32⟩ : BufTy).Contents (Elt F)),
    StableHlo.nullary main_cst_4 (constant S_ .f32 0x00000000#32),
    StableHlo.unary main_cst_4 main_v24 (broadcastInDim S2048x2048 ![] bcast_S_S2048x2048 : (⟨S_, .f32⟩ : BufTy).Contents (Elt F) → (⟨S2048x2048, .f32⟩ : BufTy).Contents (Elt F)),
    StableHlo.binary main_v23 main_v24 main_v25 (cmpf .ogt : (⟨S2048x2048, .f32⟩ : BufTy).Contents (Elt F) → (⟨S2048x2048, .f32⟩ : BufTy).Contents (Elt F) → (⟨S2048x2048, .i1⟩ : BufTy).Contents (Elt F)),
    StableHlo.unary main_v25 main_v26 (uitofp .f32 : (⟨S2048x2048, .i1⟩ : BufTy).Contents (Elt F) → (⟨S2048x2048, .f32⟩ : BufTy).Contents (Elt F)),
    StableHlo.nullary main_cst_5 (constant S_ .f32 0x00000000#32),
    StableHlo.binary main_v26 main_cst_5 main_v27 ((fun x v => Host.reduceAdd x v reducesTo_S2048x2048_S2048_d1 h_S_) : (⟨S2048x2048, .f32⟩ : BufTy).Contents (Elt F) → (⟨S_, .f32⟩ : BufTy).Contents (Elt F) → (⟨S2048, .f32⟩ : BufTy).Contents (Elt F)),
    StableHlo.nullary main_cst_6 (constant S_ .f32 0xBF000000#32),
    StableHlo.unary main_cst_6 main_v28 (broadcastInDim S2048 ![] bcast_S_S2048 : (⟨S_, .f32⟩ : BufTy).Contents (Elt F) → (⟨S2048, .f32⟩ : BufTy).Contents (Elt F)),
    StableHlo.binary main_v27 main_v28 main_v29 (Host.powf : (⟨S2048, .f32⟩ : BufTy).Contents (Elt F) → (⟨S2048, .f32⟩ : BufTy).Contents (Elt F) → (⟨S2048, .f32⟩ : BufTy).Contents (Elt F)),
    StableHlo.nullary main_cst_7 (constant S_ .f32 0x00000000#32),
    StableHlo.binary main_v26 main_cst_7 main_v30 ((fun x v => Host.reduceAdd x v reducesTo_S2048x2048_S2048_d0 h_S_) : (⟨S2048x2048, .f32⟩ : BufTy).Contents (Elt F) → (⟨S_, .f32⟩ : BufTy).Contents (Elt F) → (⟨S2048, .f32⟩ : BufTy).Contents (Elt F)),
    StableHlo.nullary main_cst_8 (constant S_ .f32 0xBF000000#32),
    StableHlo.unary main_cst_8 main_v31 (broadcastInDim S2048 ![] bcast_S_S2048 : (⟨S_, .f32⟩ : BufTy).Contents (Elt F) → (⟨S2048, .f32⟩ : BufTy).Contents (Elt F)),
    StableHlo.binary main_v30 main_v31 main_v32 (Host.powf : (⟨S2048, .f32⟩ : BufTy).Contents (Elt F) → (⟨S2048, .f32⟩ : BufTy).Contents (Elt F) → (⟨S2048, .f32⟩ : BufTy).Contents (Elt F)),
    StableHlo.unary main_v32 main_v33 (broadcastInDim S2048x1 ![0] bcast_S2048_S2048x1_0 : (⟨S2048, .f32⟩ : BufTy).Contents (Elt F) → (⟨S2048x1, .f32⟩ : BufTy).Contents (Elt F)),
    StableHlo.unary main_v26 main_v34 ((transpose S2048x2048 [1, 0] · transposes_S2048x2048_S2048x2048_1_0) : (⟨S2048x2048, .f32⟩ : BufTy).Contents (Elt F) → (⟨S2048x2048, .f32⟩ : BufTy).Contents (Elt F)),
    StableHlo.unary main_v29 main_v35 (broadcastInDim S2048x1 ![0] bcast_S2048_S2048x1_0 : (⟨S2048, .f32⟩ : BufTy).Contents (Elt F) → (⟨S2048x1, .f32⟩ : BufTy).Contents (Elt F)),
    StableHlo.unary main_v35 main_v36 (broadcastInDim S2048x256 ![0, 1] bcast_S2048x1_S2048x256_0_1 : (⟨S2048x1, .f32⟩ : BufTy).Contents (Elt F) → (⟨S2048x256, .f32⟩ : BufTy).Contents (Elt F)),
    StableHlo.binary main_v36 main_v2 main_v37 (mulf : (⟨S2048x256, .f32⟩ : BufTy).Contents (Elt F) → (⟨S2048x256, .f32⟩ : BufTy).Contents (Elt F) → (⟨S2048x256, .f32⟩ : BufTy).Contents (Elt F)),
    StableHlo.binary main_v34 main_v37 main_v38 ((fun l r => Host.dotGeneral dot_S2048x2048_S2048x256_S2048x256_1_0_0_1_n_n none l r) : (⟨S2048x2048, .f32⟩ : BufTy).Contents (Elt F) → (⟨S2048x256, .f32⟩ : BufTy).Contents (Elt F) → (⟨S2048x256, .f32⟩ : BufTy).Contents (Elt F)),
    StableHlo.unary main_v33 main_v39 (broadcastInDim S2048x256 ![0, 1] bcast_S2048x1_S2048x256_0_1 : (⟨S2048x1, .f32⟩ : BufTy).Contents (Elt F) → (⟨S2048x256, .f32⟩ : BufTy).Contents (Elt F)),
    StableHlo.binary main_v39 main_v38 main_v40 (mulf : (⟨S2048x256, .f32⟩ : BufTy).Contents (Elt F) → (⟨S2048x256, .f32⟩ : BufTy).Contents (Elt F) → (⟨S2048x256, .f32⟩ : BufTy).Contents (Elt F)),
    StableHlo.binary main_v40 main_arg1 main_v41 ((fun l r => Host.dotGeneral dot_S2048x256_S256x256_S2048x256_1_0_0_1_n_n none l r) : (⟨S2048x256, .f32⟩ : BufTy).Contents (Elt F) → (⟨S256x256, .f32⟩ : BufTy).Contents (Elt F) → (⟨S2048x256, .f32⟩ : BufTy).Contents (Elt F)),
    StableHlo.unary main_v29 main_v42 (broadcastInDim S2048x1 ![0] bcast_S2048_S2048x1_0 : (⟨S2048, .f32⟩ : BufTy).Contents (Elt F) → (⟨S2048x1, .f32⟩ : BufTy).Contents (Elt F)),
    StableHlo.unary main_v32 main_v43 (broadcastInDim S2048x1 ![0] bcast_S2048_S2048x1_0 : (⟨S2048, .f32⟩ : BufTy).Contents (Elt F) → (⟨S2048x1, .f32⟩ : BufTy).Contents (Elt F)),
    StableHlo.unary main_v43 main_v44 (broadcastInDim S2048x256 ![0, 1] bcast_S2048x1_S2048x256_0_1 : (⟨S2048x1, .f32⟩ : BufTy).Contents (Elt F) → (⟨S2048x256, .f32⟩ : BufTy).Contents (Elt F)),
    StableHlo.binary main_v44 main_v41 main_v45 (mulf : (⟨S2048x256, .f32⟩ : BufTy).Contents (Elt F) → (⟨S2048x256, .f32⟩ : BufTy).Contents (Elt F) → (⟨S2048x256, .f32⟩ : BufTy).Contents (Elt F)),
    StableHlo.binary main_v26 main_v45 main_v46 ((fun l r => Host.dotGeneral dot_S2048x2048_S2048x256_S2048x256_1_0_0_1_n_n none l r) : (⟨S2048x2048, .f32⟩ : BufTy).Contents (Elt F) → (⟨S2048x256, .f32⟩ : BufTy).Contents (Elt F) → (⟨S2048x256, .f32⟩ : BufTy).Contents (Elt F)),
    StableHlo.unary main_v42 main_v47 (broadcastInDim S2048x256 ![0, 1] bcast_S2048x1_S2048x256_0_1 : (⟨S2048x1, .f32⟩ : BufTy).Contents (Elt F) → (⟨S2048x256, .f32⟩ : BufTy).Contents (Elt F)),
    StableHlo.binary main_v47 main_v46 main_v48 (mulf : (⟨S2048x256, .f32⟩ : BufTy).Contents (Elt F) → (⟨S2048x256, .f32⟩ : BufTy).Contents (Elt F) → (⟨S2048x256, .f32⟩ : BufTy).Contents (Elt F)),
    StableHlo.unary main_v0 main_v49 ((extractStridedSlice S1x2048x256 ![1, 0, 0] · slices_S3x2048x256_S1x2048x256_1_0_0) : (⟨S3x2048x256, .f32⟩ : BufTy).Contents (Elt F) → (⟨S1x2048x256, .f32⟩ : BufTy).Contents (Elt F)) ]

set_option maxRecDepth 16384 in
set_option maxHeartbeats 4000000 in
/-- The window is that line: the called functions unfold at their calls and sequencing re-associates. -/
theorem main_part0_eq (c : Dev nD) : main_part0 (F := F) c = StableHlo.seq ops_part0 := rfl

set_option maxRecDepth 16384 in
set_option maxHeartbeats 4000000 in
/-- Every operation of the window is good; the result's index is compared by computation. -/
theorem ops_part0_good : (ops_part0 : List (HloOp τ sig (Elt F))).Forall (Good 12) :=
  ⟨reshape_good (h := by decide) .., unary_good (h := by decide) .., reshape_good (h := by decide) .., binary_good (h := by decide) ..,
    nullary_good (h := by decide) .., binary_good (h := by decide) .., unary_good (h := by decide) .., unary_good (h := by decide) ..,
    unary_good (h := by decide) .., unary_good (h := by decide) .., binary_good (h := by decide) .., unary_good (h := by decide) ..,
    binary_good (h := by decide) .., nullary_good (h := by decide) .., unary_good (h := by decide) .., binary_good (h := by decide) ..,
    binary_good (h := by decide) .., unary_good (h := by decide) .., nullary_good (h := by decide) .., binary_good (h := by decide) ..,
    nullary_good (h := by decide) .., binary_good (h := by decide) .., nullary_good (h := by decide) .., binary_good (h := by decide) ..,
    unary_good (h := by decide) .., binary_good (h := by decide) .., unary_good (h := by decide) .., unary_good (h := by decide) ..,
    binary_good (h := by decide) .., nullary_good (h := by decide) .., unary_good (h := by decide) .., binary_good (h := by decide) ..,
    unary_good (h := by decide) .., nullary_good (h := by decide) .., binary_good (h := by decide) .., nullary_good (h := by decide) ..,
    unary_good (h := by decide) .., binary_good (h := by decide) .., nullary_good (h := by decide) .., binary_good (h := by decide) ..,
    nullary_good (h := by decide) .., unary_good (h := by decide) .., binary_good (h := by decide) .., unary_good (h := by decide) ..,
    unary_good (h := by decide) .., unary_good (h := by decide) .., unary_good (h := by decide) .., binary_good (h := by decide) ..,
    binary_good (h := by decide) .., unary_good (h := by decide) .., binary_good (h := by decide) .., binary_good (h := by decide) ..,
    unary_good (h := by decide) .., unary_good (h := by decide) .., unary_good (h := by decide) .., binary_good (h := by decide) ..,
    binary_good (h := by decide) .., unary_good (h := by decide) .., binary_good (h := by decide) .., unary_good (h := by decide) ..⟩

end Cert.ReferenceIdeal.Hand

end
-- ==== Proof.Ref.W01.lean ====
import proofs.«146970_j35948876268088_1_alg».proof.ReferenceIdeal.P01
import proofs.«146970_j35948876268088_1_alg».proof.Proof.Ref.Keep

noncomputable section

namespace Cert.ReferenceIdeal.Hand

open Cert.ReferenceIdeal Idealize.ShloMosaic Idealize.ShloMosaic.TcCoe Idealize.SL.Sem Idealize.ShloMosaic.StableHlo

variable {F : FTy → Type} [FloatOps F]

variable [Facts]
open Facts₀ Facts

set_option maxHeartbeats 4000000 in
/-- The operations of window 1, in order; a called function's operations stand in its call's place. -/
abbrev ops_part1 : List (HloOp τ sig (Elt F)) :=
  [ StableHlo.reshape main_v49 main_v50 rfl shapeCasts_S1x2048x256_S2048x256,
    StableHlo.binary main_v50 main_v50 main_v51 (mulf : (⟨S2048x256, .f32⟩ : BufTy).Contents (Elt F) → (⟨S2048x256, .f32⟩ : BufTy).Contents (Elt F) → (⟨S2048x256, .f32⟩ : BufTy).Contents (Elt F)),
    StableHlo.nullary main_cst_9 (constant S_ .f32 0x00000000#32),
    StableHlo.binary main_v51 main_cst_9 main_v52 ((fun x v => Host.reduceAdd x v reducesTo_S2048x256_S2048_d1 h_S_) : (⟨S2048x256, .f32⟩ : BufTy).Contents (Elt F) → (⟨S_, .f32⟩ : BufTy).Contents (Elt F) → (⟨S2048, .f32⟩ : BufTy).Contents (Elt F)),
    StableHlo.unary main_v52 main_v53 (broadcastInDim S2048x1 ![0] bcast_S2048_S2048x1_0 : (⟨S2048, .f32⟩ : BufTy).Contents (Elt F) → (⟨S2048x1, .f32⟩ : BufTy).Contents (Elt F)),
    StableHlo.unary main_v52 main_v54 (broadcastInDim S1x2048 ![1] bcast_S2048_S1x2048_1 : (⟨S2048, .f32⟩ : BufTy).Contents (Elt F) → (⟨S1x2048, .f32⟩ : BufTy).Contents (Elt F)),
    StableHlo.unary main_v53 main_v55 (broadcastInDim S2048x2048 ![0, 1] bcast_S2048x1_S2048x2048_0_1 : (⟨S2048x1, .f32⟩ : BufTy).Contents (Elt F) → (⟨S2048x2048, .f32⟩ : BufTy).Contents (Elt F)),
    StableHlo.unary main_v54 main_v56 (broadcastInDim S2048x2048 ![0, 1] bcast_S1x2048_S2048x2048_0_1 : (⟨S1x2048, .f32⟩ : BufTy).Contents (Elt F) → (⟨S2048x2048, .f32⟩ : BufTy).Contents (Elt F)),
    StableHlo.binary main_v55 main_v56 main_v57 (addf : (⟨S2048x2048, .f32⟩ : BufTy).Contents (Elt F) → (⟨S2048x2048, .f32⟩ : BufTy).Contents (Elt F) → (⟨S2048x2048, .f32⟩ : BufTy).Contents (Elt F)),
    StableHlo.unary main_v50 main_v58 ((transpose S256x2048 [1, 0] · transposes_S2048x256_S256x2048_1_0) : (⟨S2048x256, .f32⟩ : BufTy).Contents (Elt F) → (⟨S256x2048, .f32⟩ : BufTy).Contents (Elt F)),
    StableHlo.binary main_v50 main_v58 main_v59 ((fun l r => Host.dotGeneral dot_S2048x256_S256x2048_S2048x2048_1_0_0_1_n_n none l r) : (⟨S2048x256, .f32⟩ : BufTy).Contents (Elt F) → (⟨S256x2048, .f32⟩ : BufTy).Contents (Elt F) → (⟨S2048x2048, .f32⟩ : BufTy).Contents (Elt F)),
    StableHlo.nullary main_cst_10 (constant S_ .f32 0x40000000#32),
    StableHlo.unary main_cst_10 main_v60 (broadcastInDim S2048x2048 ![] bcast_S_S2048x2048 : (⟨S_, .f32⟩ : BufTy).Contents (Elt F) → (⟨S2048x2048, .f32⟩ : BufTy).Contents (Elt F)),
    StableHlo.binary main_v60 main_v59 main_v61 (mulf : (⟨S2048x2048, .f32⟩ : BufTy).Contents (Elt F) → (⟨S2048x2048, .f32⟩ : BufTy).Contents (Elt F) → (⟨S2048x2048, .f32⟩ : BufTy).Contents (Elt F)),
    StableHlo.binary main_v57 main_v61 main_v62 (subf : (⟨S2048x2048, .f32⟩ : BufTy).Contents (Elt F) → (⟨S2048x2048, .f32⟩ : BufTy).Contents (Elt F) → (⟨S2048x2048, .f32⟩ : BufTy).Contents (Elt F)),
    StableHlo.unary main_v62 main_v63 (Host.absf : (⟨S2048x2048, .f32⟩ : BufTy).Contents (Elt F) → (⟨S2048x2048, .f32⟩ : BufTy).Contents (Elt F)),
    StableHlo.nullary main_cst_11 (constant S_ .f32 0x00000000#32),
    StableHlo.binary main_v63 main_cst_11 main_v64 ((fun x v => Host.reduceAdd x v reducesTo_S2048x2048_S_d0_1 h_S_) : (⟨S2048x2048, .f32⟩ : BufTy).Contents (Elt F) → (⟨S_, .f32⟩ : BufTy).Contents (Elt F) → (⟨S_, .f32⟩ : BufTy).Contents (Elt F)),
    StableHlo.nullary main_cst_12 (constant S_ .f32 0x4A800000#32),
    StableHlo.binary main_v64 main_cst_12 main_v65 (Host.divf : (⟨S_, .f32⟩ : BufTy).Contents (Elt F) → (⟨S_, .f32⟩ : BufTy).Contents (Elt F) → (⟨S_, .f32⟩ : BufTy).Contents (Elt F)),
    StableHlo.nullary main_cst_13 (constant S_ .f32 0x40A00000#32),
    StableHlo.binary main_v65 main_cst_13 main_v66 (Host.divf : (⟨S_, .f32⟩ : BufTy).Contents (Elt F) → (⟨S_, .f32⟩ : BufTy).Contents (Elt F) → (⟨S_, .f32⟩ : BufTy).Contents (Elt F)),
    StableHlo.unary main_v66 main_v67 (broadcastInDim S2048x2048 ![] bcast_S_S2048x2048 : (⟨S_, .f32⟩ : BufTy).Contents (Elt F) → (⟨S2048x2048, .f32⟩ : BufTy).Contents (Elt F)),
    StableHlo.binary main_v63 main_v67 main_v68 (cmpf .olt : (⟨S2048x2048, .f32⟩ : BufTy).Contents (Elt F) → (⟨S2048x2048, .f32⟩ : BufTy).Contents (Elt F) → (⟨S2048x2048, .i1⟩ : BufTy).Contents (Elt F)),
    StableHlo.unary main_v68 main_v69 (uitofp .f32 : (⟨S2048x2048, .i1⟩ : BufTy).Contents (Elt F) → (⟨S2048x2048, .f32⟩ : BufTy).Contents (Elt F)),
    StableHlo.unary main_v69 main_v70 ((transpose S2048x2048 [1, 0] · transposes_S2048x2048_S2048x2048_1_0) : (⟨S2048x2048, .f32⟩ : BufTy).Contents (Elt F) → (⟨S2048x2048, .f32⟩ : BufTy).Contents (Elt F)),
    StableHlo.binary main_v70 main_v69 main_v71 ((fun l r => Host.dotGeneral dot_S2048x2048_S2048x2048_S2048x2048_1_0_0_1_n_n none l r) : (⟨S2048x2048, .f32⟩ : BufTy).Contents (Elt F) → (⟨S2048x2048, .f32⟩ : BufTy).Contents (Elt F) → (⟨S2048x2048, .f32⟩ : BufTy).Contents (Elt F)),
    StableHlo.nullary main_cst_14 (constant S_ .f32 0x00000000#32),
    StableHlo.unary main_cst_14 main_v72 (broadcastInDim S2048x2048 ![] bcast_S_S2048x2048 : (⟨S_, .f32⟩ : BufTy).Contents (Elt F) → (⟨S2048x2048, .f32⟩ : BufTy).Contents (Elt F)),
    StableHlo.binary main_v71 main_v72 main_v73 (cmpf .ogt : (⟨S2048x2048, .f32⟩ : BufTy).Contents (Elt F) → (⟨S2048x2048, .f32⟩ : BufTy).Contents (Elt F) → (⟨S2048x2048, .i1⟩ : BufTy).Contents (Elt F)),
    StableHlo.unary main_v73 main_v74 (uitofp .f32 : (⟨S2048x2048, .i1⟩ : BufTy).Contents (Elt F) → (⟨S2048x2048, .f32⟩ : BufTy).Contents (Elt F)),
    StableHlo.nullary main_cst_15 (constant S_ .f32 0x00000000#32),
    StableHlo.binary main_v74 main_cst_15 main_v75 ((fun x v => Host.reduceAdd x v reducesTo_S2048x2048_S2048_d1 h_S_) : (⟨S2048x2048, .f32⟩ : BufTy).Contents (Elt F) → (⟨S_, .f32⟩ : BufTy).Contents (Elt F) → (⟨S2048, .f32⟩ : BufTy).Contents (Elt F)),
    StableHlo.nullary main_cst_16 (constant S_ .f32 0xBF000000#32),
    StableHlo.unary main_cst_16 main_v76 (broadcastInDim S2048 ![] bcast_S_S2048 : (⟨S_, .f32⟩ : BufTy).Contents (Elt F) → (⟨S2048, .f32⟩ : BufTy).Contents (Elt F)),
    StableHlo.binary main_v75 main_v76 main_v77 (Host.powf : (⟨S2048, .f32⟩ : BufTy).Contents (Elt F) → (⟨S2048, .f32⟩ : BufTy).Contents (Elt F) → (⟨S2048, .f32⟩ : BufTy).Contents (Elt F)),
    StableHlo.nullary main_cst_17 (constant S_ .f32 0x00000000#32),
    StableHlo.binary main_v74 main_cst_17 main_v78 ((fun x v => Host.reduceAdd x v reducesTo_S2048x2048_S2048_d0 h_S_) : (⟨S2048x2048, .f32⟩ : BufTy).Contents (Elt F) → (⟨S_, .f32⟩ : BufTy).Contents (Elt F) → (⟨S2048, .f32⟩ : BufTy).Contents (Elt F)),
    StableHlo.nullary main_cst_18 (constant S_ .f32 0xBF000000#32),
    StableHlo.unary main_cst_18 main_v79 (broadcastInDim S2048 ![] bcast_S_S2048 : (⟨S_, .f32⟩ : BufTy).Contents (Elt F) → (⟨S2048, .f32⟩ : BufTy).Contents (Elt F)),
    StableHlo.binary main_v78 main_v79 main_v80 (Host.powf : (⟨S2048, .f32⟩ : BufTy).Contents (Elt F) → (⟨S2048, .f32⟩ : BufTy).Contents (Elt F) → (⟨S2048, .f32⟩ : BufTy).Contents (Elt F)),
    StableHlo.unary main_v80 main_v81 (broadcastInDim S2048x1 ![0] bcast_S2048_S2048x1_0 : (⟨S2048, .f32⟩ : BufTy).Contents (Elt F) → (⟨S2048x1, .f32⟩ : BufTy).Contents (Elt F)),
    StableHlo.unary main_v74 main_v82 ((transpose S2048x2048 [1, 0] · transposes_S2048x2048_S2048x2048_1_0) : (⟨S2048x2048, .f32⟩ : BufTy).Contents (Elt F) → (⟨S2048x2048, .f32⟩ : BufTy).Contents (Elt F)),
    StableHlo.unary main_v77 main_v83 (broadcastInDim S2048x1 ![0] bcast_S2048_S2048x1_0 : (⟨S2048, .f32⟩ : BufTy).Contents (Elt F) → (⟨S2048x1, .f32⟩ : BufTy).Contents (Elt F)),
    StableHlo.unary main_v83 main_v84 (broadcastInDim S2048x256 ![0, 1] bcast_S2048x1_S2048x256_0_1 : (⟨S2048x1, .f32⟩ : BufTy).Contents (Elt F) → (⟨S2048x256, .f32⟩ : BufTy).Contents (Elt F)),
    StableHlo.binary main_v84 main_v50 main_v85 (mulf : (⟨S2048x256, .f32⟩ : BufTy).Contents (Elt F) → (⟨S2048x256, .f32⟩ : BufTy).Contents (Elt F) → (⟨S2048x256, .f32⟩ : BufTy).Contents (Elt F)),
    StableHlo.binary main_v82 main_v85 main_v86 ((fun l r => Host.dotGeneral dot_S2048x2048_S2048x256_S2048x256_1_0_0_1_n_n none l r) : (⟨S2048x2048, .f32⟩ : BufTy).Contents (Elt F) → (⟨S2048x256, .f32⟩ : BufTy).Contents (Elt F) → (⟨S2048x256, .f32⟩ : BufTy).Contents (Elt F)),
    StableHlo.unary main_v81 main_v87 (broadcastInDim S2048x256 ![0, 1] bcast_S2048x1_S2048x256_0_1 : (⟨S2048x1, .f32⟩ : BufTy).Contents (Elt F) → (⟨S2048x256, .f32⟩ : BufTy).Contents (Elt F)),
    StableHlo.binary main_v87 main_v86 main_v88 (mulf : (⟨S2048x256, .f32⟩ : BufTy).Contents (Elt F) → (⟨S2048x256, .f32⟩ : BufTy).Contents (Elt F) → (⟨S2048x256, .f32⟩ : BufTy).Contents (Elt F)),
    StableHlo.binary main_v88 main_arg1 main_v89 ((fun l r => Host.dotGeneral dot_S2048x256_S256x256_S2048x256_1_0_0_1_n_n none l r) : (⟨S2048x256, .f32⟩ : BufTy).Contents (Elt F) → (⟨S256x256, .f32⟩ : BufTy).Contents (Elt F) → (⟨S2048x256, .f32⟩ : BufTy).Contents (Elt F)),
    StableHlo.unary main_v77 main_v90 (broadcastInDim S2048x1 ![0] bcast_S2048_S2048x1_0 : (⟨S2048, .f32⟩ : BufTy).Contents (Elt F) → (⟨S2048x1, .f32⟩ : BufTy).Contents (Elt F)),
    StableHlo.unary main_v80 main_v91 (broadcastInDim S2048x1 ![0] bcast_S2048_S2048x1_0 : (⟨S2048, .f32⟩ : BufTy).Contents (Elt F) → (⟨S2048x1, .f32⟩ : BufTy).Contents (Elt F)),
    StableHlo.unary main_v91 main_v92 (broadcastInDim S2048x256 ![0, 1] bcast_S2048x1_S2048x256_0_1 : (⟨S2048x1, .f32⟩ : BufTy).Contents (Elt F) → (⟨S2048x256, .f32⟩ : BufTy).Contents (Elt F)),
    StableHlo.binary main_v92 main_v89 main_v93 (mulf : (⟨S2048x256, .f32⟩ : BufTy).Contents (Elt F) → (⟨S2048x256, .f32⟩ : BufTy).Contents (Elt F) → (⟨S2048x256, .f32⟩ : BufTy).Contents (Elt F)),
    StableHlo.binary main_v74 main_v93 main_v94 ((fun l r => Host.dotGeneral dot_S2048x2048_S2048x256_S2048x256_1_0_0_1_n_n none l r) : (⟨S2048x2048, .f32⟩ : BufTy).Contents (Elt F) → (⟨S2048x256, .f32⟩ : BufTy).Contents (Elt F) → (⟨S2048x256, .f32⟩ : BufTy).Contents (Elt F)),
    StableHlo.unary main_v90 main_v95 (broadcastInDim S2048x256 ![0, 1] bcast_S2048x1_S2048x256_0_1 : (⟨S2048x1, .f32⟩ : BufTy).Contents (Elt F) → (⟨S2048x256, .f32⟩ : BufTy).Contents (Elt F)),
    StableHlo.binary main_v95 main_v94 main_v96 (mulf : (⟨S2048x256, .f32⟩ : BufTy).Contents (Elt F) → (⟨S2048x256, .f32⟩ : BufTy).Contents (Elt F) → (⟨S2048x256, .f32⟩ : BufTy).Contents (Elt F)),
    StableHlo.unary main_v0 main_v97 ((extractStridedSlice S1x2048x256 ![2, 0, 0] · slices_S3x2048x256_S1x2048x256_2_0_0) : (⟨S3x2048x256, .f32⟩ : BufTy).Contents (Elt F) → (⟨S1x2048x256, .f32⟩ : BufTy).Contents (Elt F)),
    StableHlo.reshape main_v97 main_v98 rfl shapeCasts_S1x2048x256_S2048x256,
    StableHlo.binary main_v98 main_v98 main_v99 (mulf : (⟨S2048x256, .f32⟩ : BufTy).Contents (Elt F) → (⟨S2048x256, .f32⟩ : BufTy).Contents (Elt F) → (⟨S2048x256, .f32⟩ : BufTy).Contents (Elt F)) ]

set_option maxRecDepth 16384 in
set_option maxHeartbeats 4000000 in
/-- The window is that line: the called functions unfold at their calls and sequencing re-associates. -/
theorem main_part1_eq (c : Dev nD) : main_part1 (F := F) c = StableHlo.seq ops_part1 := rfl

set_option maxRecDepth 16384 in
set_option maxHeartbeats 4000000 in
/-- Every operation of the window is good; the result's index is compared by computation. -/
theorem ops_part1_good : (ops_part1 : List (HloOp τ sig (Elt F))).Forall (Good 12) :=
  ⟨reshape_good (h := by decide) .., binary_good (h := by decide) .., nullary_good (h := by decide) .., binary_good (h := by decide) ..,
    unary_good (h := by decide) .., unary_good (h := by decide) .., unary_good (h := by decide) .., unary_good (h := by decide) ..,
    binary_good (h := by decide) .., unary_good (h := by decide) .., binary_good (h := by decide) .., nullary_good (h := by decide) ..,
    unary_good (h := by decide) .., binary_good (h := by decide) .., binary_good (h := by decide) .., unary_good (h := by decide) ..,
    nullary_good (h := by decide) .., binary_good (h := by decide) .., nullary_good (h := by decide) .., binary_good (h := by decide) ..,
    nullary_good (h := by decide) .., binary_good (h := by decide) .., unary_good (h := by decide) .., binary_good (h := by decide) ..,
    unary_good (h := by decide) .., unary_good (h := by decide) .., binary_good (h := by decide) .., nullary_good (h := by decide) ..,
    unary_good (h := by decide) .., binary_good (h := by decide) .., unary_good (h := by decide) .., nullary_good (h := by decide) ..,
    binary_good (h := by decide) .., nullary_good (h := by decide) .., unary_good (h := by decide) .., binary_good (h := by decide) ..,
    nullary_good (h := by decide) .., binary_good (h := by decide) .., nullary_good (h := by decide) .., unary_good (h := by decide) ..,
    binary_good (h := by decide) .., unary_good (h := by decide) .., unary_good (h := by decide) .., unary_good (h := by decide) ..,
    unary_good (h := by decide) .., binary_good (h := by decide) .., binary_good (h := by decide) .., unary_good (h := by decide) ..,
    binary_good (h := by decide) .., binary_good (h := by decide) .., unary_good (h := by decide) .., unary_good (h := by decide) ..,
    unary_good (h := by decide) .., binary_good (h := by decide) .., binary_good (h := by decide) .., unary_good (h := by decide) ..,
    binary_good (h := by decide) .., unary_good (h := by decide) .., reshape_good (h := by decide) .., binary_good (h := by decide) ..⟩

end Cert.ReferenceIdeal.Hand

end
-- ==== Proof.Ref.W02.lean ====
import proofs.«146970_j35948876268088_1_alg».proof.ReferenceIdeal.P01
import proofs.«146970_j35948876268088_1_alg».proof.Proof.Ref.Keep

noncomputable section

namespace Cert.ReferenceIdeal.Hand

open Cert.ReferenceIdeal Idealize.ShloMosaic Idealize.ShloMosaic.TcCoe Idealize.SL.Sem Idealize.ShloMosaic.StableHlo

variable {F : FTy → Type} [FloatOps F]

variable [Facts]
open Facts₀ Facts

set_option maxHeartbeats 4000000 in
/-- The operations of window 2, in order; a called function's operations stand in its call's place. -/
abbrev ops_part2 : List (HloOp τ sig (Elt F)) :=
  [ StableHlo.nullary main_cst_19 (constant S_ .f32 0x00000000#32),
    StableHlo.binary main_v99 main_cst_19 main_v100 ((fun x v => Host.reduceAdd x v reducesTo_S2048x256_S2048_d1 h_S_) : (⟨S2048x256, .f32⟩ : BufTy).Contents (Elt F) → (⟨S_, .f32⟩ : BufTy).Contents (Elt F) → (⟨S2048, .f32⟩ : BufTy).Contents (Elt F)),
    StableHlo.unary main_v100 main_v101 (broadcastInDim S2048x1 ![0] bcast_S2048_S2048x1_0 : (⟨S2048, .f32⟩ : BufTy).Contents (Elt F) → (⟨S2048x1, .f32⟩ : BufTy).Contents (Elt F)),
    StableHlo.unary main_v100 main_v102 (broadcastInDim S1x2048 ![1] bcast_S2048_S1x2048_1 : (⟨S2048, .f32⟩ : BufTy).Contents (Elt F) → (⟨S1x2048, .f32⟩ : BufTy).Contents (Elt F)),
    StableHlo.unary main_v101 main_v103 (broadcastInDim S2048x2048 ![0, 1] bcast_S2048x1_S2048x2048_0_1 : (⟨S2048x1, .f32⟩ : BufTy).Contents (Elt F) → (⟨S2048x2048, .f32⟩ : BufTy).Contents (Elt F)),
    StableHlo.unary main_v102 main_v104 (broadcastInDim S2048x2048 ![0, 1] bcast_S1x2048_S2048x2048_0_1 : (⟨S1x2048, .f32⟩ : BufTy).Contents (Elt F) → (⟨S2048x2048, .f32⟩ : BufTy).Contents (Elt F)),
    StableHlo.binary main_v103 main_v104 main_v105 (addf : (⟨S2048x2048, .f32⟩ : BufTy).Contents (Elt F) → (⟨S2048x2048, .f32⟩ : BufTy).Contents (Elt F) → (⟨S2048x2048, .f32⟩ : BufTy).Contents (Elt F)),
    StableHlo.unary main_v98 main_v106 ((transpose S256x2048 [1, 0] · transposes_S2048x256_S256x2048_1_0) : (⟨S2048x256, .f32⟩ : BufTy).Contents (Elt F) → (⟨S256x2048, .f32⟩ : BufTy).Contents (Elt F)),
    StableHlo.binary main_v98 main_v106 main_v107 ((fun l r => Host.dotGeneral dot_S2048x256_S256x2048_S2048x2048_1_0_0_1_n_n none l r) : (⟨S2048x256, .f32⟩ : BufTy).Contents (Elt F) → (⟨S256x2048, .f32⟩ : BufTy).Contents (Elt F) → (⟨S2048x2048, .f32⟩ : BufTy).Contents (Elt F)),
    StableHlo.nullary main_cst_20 (constant S_ .f32 0x40000000#32),
    StableHlo.unary main_cst_20 main_v108 (broadcastInDim S2048x2048 ![] bcast_S_S2048x2048 : (⟨S_, .f32⟩ : BufTy).Contents (Elt F) → (⟨S2048x2048, .f32⟩ : BufTy).Contents (Elt F)),
    StableHlo.binary main_v108 main_v107 main_v109 (mulf : (⟨S2048x2048, .f32⟩ : BufTy).Contents (Elt F) → (⟨S2048x2048, .f32⟩ : BufTy).Contents (Elt F) → (⟨S2048x2048, .f32⟩ : BufTy).Contents (Elt F)),
    StableHlo.binary main_v105 main_v109 main_v110 (subf : (⟨S2048x2048, .f32⟩ : BufTy).Contents (Elt F) → (⟨S2048x2048, .f32⟩ : BufTy).Contents (Elt F) → (⟨S2048x2048, .f32⟩ : BufTy).Contents (Elt F)),
    StableHlo.unary main_v110 main_v111 (Host.absf : (⟨S2048x2048, .f32⟩ : BufTy).Contents (Elt F) → (⟨S2048x2048, .f32⟩ : BufTy).Contents (Elt F)),
    StableHlo.nullary main_cst_21 (constant S_ .f32 0x00000000#32),
    StableHlo.binary main_v111 main_cst_21 main_v112 ((fun x v => Host.reduceAdd x v reducesTo_S2048x2048_S_d0_1 h_S_) : (⟨S2048x2048, .f32⟩ : BufTy).Contents (Elt F) → (⟨S_, .f32⟩ : BufTy).Contents (Elt F) → (⟨S_, .f32⟩ : BufTy).Contents (Elt F)),
    StableHlo.nullary main_cst_22 (constant S_ .f32 0x4A800000#32),
    StableHlo.binary main_v112 main_cst_22 main_v113 (Host.divf : (⟨S_, .f32⟩ : BufTy).Contents (Elt F) → (⟨S_, .f32⟩ : BufTy).Contents (Elt F) → (⟨S_, .f32⟩ : BufTy).Contents (Elt F)),
    StableHlo.nullary main_cst_23 (constant S_ .f32 0x40A00000#32),
    StableHlo.binary main_v113 main_cst_23 main_v114 (Host.divf : (⟨S_, .f32⟩ : BufTy).Contents (Elt F) → (⟨S_, .f32⟩ : BufTy).Contents (Elt F) → (⟨S_, .f32⟩ : BufTy).Contents (Elt F)),
    StableHlo.unary main_v114 main_v115 (broadcastInDim S2048x2048 ![] bcast_S_S2048x2048 : (⟨S_, .f32⟩ : BufTy).Contents (Elt F) → (⟨S2048x2048, .f32⟩ : BufTy).Contents (Elt F)),
    StableHlo.binary main_v111 main_v115 main_v116 (cmpf .olt : (⟨S2048x2048, .f32⟩ : BufTy).Contents (Elt F) → (⟨S2048x2048, .f32⟩ : BufTy).Contents (Elt F) → (⟨S2048x2048, .i1⟩ : BufTy).Contents (Elt F)),
    StableHlo.unary main_v116 main_v117 (uitofp .f32 : (⟨S2048x2048, .i1⟩ : BufTy).Contents (Elt F) → (⟨S2048x2048, .f32⟩ : BufTy).Contents (Elt F)),
    StableHlo.unary main_v117 main_v118 ((transpose S2048x2048 [1, 0] · transposes_S2048x2048_S2048x2048_1_0) : (⟨S2048x2048, .f32⟩ : BufTy).Contents (Elt F) → (⟨S2048x2048, .f32⟩ : BufTy).Contents (Elt F)),
    StableHlo.binary main_v118 main_v117 main_v119 ((fun l r => Host.dotGeneral dot_S2048x2048_S2048x2048_S2048x2048_1_0_0_1_n_n none l r) : (⟨S2048x2048, .f32⟩ : BufTy).Contents (Elt F) → (⟨S2048x2048, .f32⟩ : BufTy).Contents (Elt F) → (⟨S2048x2048, .f32⟩ : BufTy).Contents (Elt F)),
    StableHlo.nullary main_cst_24 (constant S_ .f32 0x00000000#32),
    StableHlo.unary main_cst_24 main_v120 (broadcastInDim S2048x2048 ![] bcast_S_S2048x2048 : (⟨S_, .f32⟩ : BufTy).Contents (Elt F) → (⟨S2048x2048, .f32⟩ : BufTy).Contents (Elt F)),
    StableHlo.binary main_v119 main_v120 main_v121 (cmpf .ogt : (⟨S2048x2048, .f32⟩ : BufTy).Contents (Elt F) → (⟨S2048x2048, .f32⟩ : BufTy).Contents (Elt F) → (⟨S2048x2048, .i1⟩ : BufTy).Contents (Elt F)),
    StableHlo.unary main_v121 main_v122 (uitofp .f32 : (⟨S2048x2048, .i1⟩ : BufTy).Contents (Elt F) → (⟨S2048x2048, .f32⟩ : BufTy).Contents (Elt F)),
    StableHlo.nullary main_cst_25 (constant S_ .f32 0x00000000#32),
    StableHlo.binary main_v122 main_cst_25 main_v123 ((fun x v => Host.reduceAdd x v reducesTo_S2048x2048_S2048_d1 h_S_) : (⟨S2048x2048, .f32⟩ : BufTy).Contents (Elt F) → (⟨S_, .f32⟩ : BufTy).Contents (Elt F) → (⟨S2048, .f32⟩ : BufTy).Contents (Elt F)),
    StableHlo.nullary main_cst_26 (constant S_ .f32 0xBF000000#32),
    StableHlo.unary main_cst_26 main_v124 (broadcastInDim S2048 ![] bcast_S_S2048 : (⟨S_, .f32⟩ : BufTy).Contents (Elt F) → (⟨S2048, .f32⟩ : BufTy).Contents (Elt F)),
    StableHlo.binary main_v123 main_v124 main_v125 (Host.powf : (⟨S2048, .f32⟩ : BufTy).Contents (Elt F) → (⟨S2048, .f32⟩ : BufTy).Contents (Elt F) → (⟨S2048, .f32⟩ : BufTy).Contents (Elt F)),
    StableHlo.nullary main_cst_27 (constant S_ .f32 0x00000000#32),
    StableHlo.binary main_v122 main_cst_27 main_v126 ((fun x v => Host.reduceAdd x v reducesTo_S2048x2048_S2048_d0 h_S_) : (⟨S2048x2048, .f32⟩ : BufTy).Contents (Elt F) → (⟨S_, .f32⟩ : BufTy).Contents (Elt F) → (⟨S2048, .f32⟩ : BufTy).Contents (Elt F)),
    StableHlo.nullary main_cst_28 (constant S_ .f32 0xBF000000#32),
    StableHlo.unary main_cst_28 main_v127 (broadcastInDim S2048 ![] bcast_S_S2048 : (⟨S_, .f32⟩ : BufTy).Contents (Elt F) → (⟨S2048, .f32⟩ : BufTy).Contents (Elt F)),
    StableHlo.binary main_v126 main_v127 main_v128 (Host.powf : (⟨S2048, .f32⟩ : BufTy).Contents (Elt F) → (⟨S2048, .f32⟩ : BufTy).Contents (Elt F) → (⟨S2048, .f32⟩ : BufTy).Contents (Elt F)),
    StableHlo.unary main_v128 main_v129 (broadcastInDim S2048x1 ![0] bcast_S2048_S2048x1_0 : (⟨S2048, .f32⟩ : BufTy).Contents (Elt F) → (⟨S2048x1, .f32⟩ : BufTy).Contents (Elt F)),
    StableHlo.unary main_v122 main_v130 ((transpose S2048x2048 [1, 0] · transposes_S2048x2048_S2048x2048_1_0) : (⟨S2048x2048, .f32⟩ : BufTy).Contents (Elt F) → (⟨S2048x2048, .f32⟩ : BufTy).Contents (Elt F)),
    StableHlo.unary main_v125 main_v131 (broadcastInDim S2048x1 ![0] bcast_S2048_S2048x1_0 : (⟨S2048, .f32⟩ : BufTy).Contents (Elt F) → (⟨S2048x1, .f32⟩ : BufTy).Contents (Elt F)),
    StableHlo.unary main_v131 main_v132 (broadcastInDim S2048x256 ![0, 1] bcast_S2048x1_S2048x256_0_1 : (⟨S2048x1, .f32⟩ : BufTy).Contents (Elt F) → (⟨S2048x256, .f32⟩ : BufTy).Contents (Elt F)),
    StableHlo.binary main_v132 main_v98 main_v133 (mulf : (⟨S2048x256, .f32⟩ : BufTy).Contents (Elt F) → (⟨S2048x256, .f32⟩ : BufTy).Contents (Elt F) → (⟨S2048x256, .f32⟩ : BufTy).Contents (Elt F)),
    StableHlo.binary main_v130 main_v133 main_v134 ((fun l r => Host.dotGeneral dot_S2048x2048_S2048x256_S2048x256_1_0_0_1_n_n none l r) : (⟨S2048x2048, .f32⟩ : BufTy).Contents (Elt F) → (⟨S2048x256, .f32⟩ : BufTy).Contents (Elt F) → (⟨S2048x256, .f32⟩ : BufTy).Contents (Elt F)),
    StableHlo.unary main_v129 main_v135 (broadcastInDim S2048x256 ![0, 1] bcast_S2048x1_S2048x256_0_1 : (⟨S2048x1, .f32⟩ : BufTy).Contents (Elt F) → (⟨S2048x256, .f32⟩ : BufTy).Contents (Elt F)),
    StableHlo.binary main_v135 main_v134 main_v136 (mulf : (⟨S2048x256, .f32⟩ : BufTy).Contents (Elt F) → (⟨S2048x256, .f32⟩ : BufTy).Contents (Elt F) → (⟨S2048x256, .f32⟩ : BufTy).Contents (Elt F)),
    StableHlo.binary main_v136 main_arg1 main_v137 ((fun l r => Host.dotGeneral dot_S2048x256_S256x256_S2048x256_1_0_0_1_n_n none l r) : (⟨S2048x256, .f32⟩ : BufTy).Contents (Elt F) → (⟨S256x256, .f32⟩ : BufTy).Contents (Elt F) → (⟨S2048x256, .f32⟩ : BufTy).Contents (Elt F)),
    StableHlo.unary main_v125 main_v138 (broadcastInDim S2048x1 ![0] bcast_S2048_S2048x1_0 : (⟨S2048, .f32⟩ : BufTy).Contents (Elt F) → (⟨S2048x1, .f32⟩ : BufTy).Contents (Elt F)),
    StableHlo.unary main_v128 main_v139 (broadcastInDim S2048x1 ![0] bcast_S2048_S2048x1_0 : (⟨S2048, .f32⟩ : BufTy).Contents (Elt F) → (⟨S2048x1, .f32⟩ : BufTy).Contents (Elt F)),
    StableHlo.unary main_v139 main_v140 (broadcastInDim S2048x256 ![0, 1] bcast_S2048x1_S2048x256_0_1 : (⟨S2048x1, .f32⟩ : BufTy).Contents (Elt F) → (⟨S2048x256, .f32⟩ : BufTy).Contents (Elt F)),
    StableHlo.binary main_v140 main_v137 main_v141 (mulf : (⟨S2048x256, .f32⟩ : BufTy).Contents (Elt F) → (⟨S2048x256, .f32⟩ : BufTy).Contents (Elt F) → (⟨S2048x256, .f32⟩ : BufTy).Contents (Elt F)),
    StableHlo.binary main_v122 main_v141 main_v142 ((fun l r => Host.dotGeneral dot_S2048x2048_S2048x256_S2048x256_1_0_0_1_n_n none l r) : (⟨S2048x2048, .f32⟩ : BufTy).Contents (Elt F) → (⟨S2048x256, .f32⟩ : BufTy).Contents (Elt F) → (⟨S2048x256, .f32⟩ : BufTy).Contents (Elt F)),
    StableHlo.unary main_v138 main_v143 (broadcastInDim S2048x256 ![0, 1] bcast_S2048x1_S2048x256_0_1 : (⟨S2048x1, .f32⟩ : BufTy).Contents (Elt F) → (⟨S2048x256, .f32⟩ : BufTy).Contents (Elt F)),
    StableHlo.binary main_v143 main_v142 main_v144 (mulf : (⟨S2048x256, .f32⟩ : BufTy).Contents (Elt F) → (⟨S2048x256, .f32⟩ : BufTy).Contents (Elt F) → (⟨S2048x256, .f32⟩ : BufTy).Contents (Elt F)),
    StableHlo.unary main_arg6 main_v145 ((extractStridedSlice S1x16x16 ![0, 0, 0] · slices_S3x16x16_S1x16x16_0_0_0) : (⟨S3x16x16, .f32⟩ : BufTy).Contents (Elt F) → (⟨S1x16x16, .f32⟩ : BufTy).Contents (Elt F)),
    StableHlo.reshape main_v145 main_v146 rfl shapeCasts_S1x16x16_S16x16,
    StableHlo.binary main_v146 main_arg5 main_v147 ((fun l r => Host.dotGeneral dot_S16x16_S16x8_S16x8_1_0_0_1_n_n none l r) : (⟨S16x16, .f32⟩ : BufTy).Contents (Elt F) → (⟨S16x8, .f32⟩ : BufTy).Contents (Elt F) → (⟨S16x8, .f32⟩ : BufTy).Contents (Elt F)),
    StableHlo.unary main_arg7 main_v148 ((extractStridedSlice S1x16x16 ![0, 0, 0] · slices_S3x16x16_S1x16x16_0_0_0) : (⟨S3x16x16, .f32⟩ : BufTy).Contents (Elt F) → (⟨S1x16x16, .f32⟩ : BufTy).Contents (Elt F)),
    StableHlo.reshape main_v148 main_v149 rfl shapeCasts_S1x16x16_S16x16 ]

set_option maxRecDepth 16384 in
set_option maxHeartbeats 4000000 in
/-- The window is that line: the called functions unfold at their calls and sequencing re-associates. -/
theorem main_part2_eq (c : Dev nD) : main_part2 (F := F) c = StableHlo.seq ops_part2 := rfl

set_option maxRecDepth 16384 in
set_option maxHeartbeats 4000000 in
/-- Every operation of the window is good; the result's index is compared by computation. -/
theorem ops_part2_good : (ops_part2 : List (HloOp τ sig (Elt F))).Forall (Good 12) :=
  ⟨nullary_good (h := by decide) .., binary_good (h := by decide) .., unary_good (h := by decide) .., unary_good (h := by decide) ..,
    unary_good (h := by decide) .., unary_good (h := by decide) .., binary_good (h := by decide) .., unary_good (h := by decide) ..,
    binary_good (h := by decide) .., nullary_good (h := by decide) .., unary_good (h := by decide) .., binary_good (h := by decide) ..,
    binary_good (h := by decide) .., unary_good (h := by decide) .., nullary_good (h := by decide) .., binary_good (h := by decide) ..,
    nullary_good (h := by decide) .., binary_good (h := by decide) .., nullary_good (h := by decide) .., binary_good (h := by decide) ..,
    unary_good (h := by decide) .., binary_good (h := by decide) .., unary_good (h := by decide) .., unary_good (h := by decide) ..,
    binary_good (h := by decide) .., nullary_good (h := by decide) .., unary_good (h := by decide) .., binary_good (h := by decide) ..,
    unary_good (h := by decide) .., nullary_good (h := by decide) .., binary_good (h := by decide) .., nullary_good (h := by decide) ..,
    unary_good (h := by decide) .., binary_good (h := by decide) .., nullary_good (h := by decide) .., binary_good (h := by decide) ..,
    nullary_good (h := by decide) .., unary_good (h := by decide) .., binary_good (h := by decide) .., unary_good (h := by decide) ..,
    unary_good (h := by decide) .., unary_good (h := by decide) .., unary_good (h := by decide) .., binary_good (h := by decide) ..,
    binary_good (h := by decide) .., unary_good (h := by decide) .., binary_good (h := by decide) .., binary_good (h := by decide) ..,
    unary_good (h := by decide) .., unary_good (h := by decide) .., unary_good (h := by decide) .., binary_good (h := by decide) ..,
    binary_good (h := by decide) .., unary_good (h := by decide) .., binary_good (h := by decide) .., unary_good (h := by decide) ..,
    reshape_good (h := by decide) .., binary_good (h := by decide) .., unary_good (h := by decide) .., reshape_good (h := by decide) ..⟩

end Cert.ReferenceIdeal.Hand

end
-- ==== Proof.Ref.W03.lean ====
import proofs.«146970_j35948876268088_1_alg».proof.ReferenceIdeal.P02
import proofs.«146970_j35948876268088_1_alg».proof.Proof.Ref.Keep

noncomputable section

namespace Cert.ReferenceIdeal.Hand

open Cert.ReferenceIdeal Idealize.ShloMosaic Idealize.ShloMosaic.TcCoe Idealize.SL.Sem Idealize.ShloMosaic.StableHlo

variable {F : FTy → Type} [FloatOps F]

variable [Facts]
open Facts₀ Facts

set_option maxHeartbeats 4000000 in
/-- The operations of window 3, in order; a called function's operations stand in its call's place. -/
abbrev ops_part3 : List (HloOp τ sig (Elt F)) :=
  [ StableHlo.binary main_v149 main_arg5 main_v150 ((fun l r => Host.dotGeneral dot_S16x16_S16x8_S16x8_1_0_0_1_n_n none l r) : (⟨S16x16, .f32⟩ : BufTy).Contents (Elt F) → (⟨S16x8, .f32⟩ : BufTy).Contents (Elt F) → (⟨S16x8, .f32⟩ : BufTy).Contents (Elt F)),
    StableHlo.binary main_v147 main_v150 main_v151 (addf : (⟨S16x8, .f32⟩ : BufTy).Contents (Elt F) → (⟨S16x8, .f32⟩ : BufTy).Contents (Elt F) → (⟨S16x8, .f32⟩ : BufTy).Contents (Elt F)),
    StableHlo.unary main_v151 main_v152 (Host.negf : (⟨S16x8, .f32⟩ : BufTy).Contents (Elt F) → (⟨S16x8, .f32⟩ : BufTy).Contents (Elt F)),
    StableHlo.unary main_v152 main_v153 (Host.exp : (⟨S16x8, .f32⟩ : BufTy).Contents (Elt F) → (⟨S16x8, .f32⟩ : BufTy).Contents (Elt F)),
    StableHlo.nullary main_cst_29 (constant S_ .f32 0x3F800000#32),
    StableHlo.unary main_cst_29 main_v154 (broadcastInDim S16x8 ![] bcast_S_S16x8 : (⟨S_, .f32⟩ : BufTy).Contents (Elt F) → (⟨S16x8, .f32⟩ : BufTy).Contents (Elt F)),
    StableHlo.binary main_v154 main_v153 main_v155 (addf : (⟨S16x8, .f32⟩ : BufTy).Contents (Elt F) → (⟨S16x8, .f32⟩ : BufTy).Contents (Elt F) → (⟨S16x8, .f32⟩ : BufTy).Contents (Elt F)),
    StableHlo.nullary main_cst_30 (constant S_ .f32 0x3F800000#32),
    StableHlo.unary main_cst_30 main_v156 (broadcastInDim S16x8 ![] bcast_S_S16x8 : (⟨S_, .f32⟩ : BufTy).Contents (Elt F) → (⟨S16x8, .f32⟩ : BufTy).Contents (Elt F)),
    StableHlo.binary main_v156 main_v155 main_v157 (Host.divf : (⟨S16x8, .f32⟩ : BufTy).Contents (Elt F) → (⟨S16x8, .f32⟩ : BufTy).Contents (Elt F) → (⟨S16x8, .f32⟩ : BufTy).Contents (Elt F)),
    StableHlo.unary main_arg6 main_v158 ((extractStridedSlice S1x16x16 ![1, 0, 0] · slices_S3x16x16_S1x16x16_1_0_0) : (⟨S3x16x16, .f32⟩ : BufTy).Contents (Elt F) → (⟨S1x16x16, .f32⟩ : BufTy).Contents (Elt F)),
    StableHlo.reshape main_v158 main_v159 rfl shapeCasts_S1x16x16_S16x16,
    StableHlo.binary main_v159 main_arg5 main_v160 ((fun l r => Host.dotGeneral dot_S16x16_S16x8_S16x8_1_0_0_1_n_n none l r) : (⟨S16x16, .f32⟩ : BufTy).Contents (Elt F) → (⟨S16x8, .f32⟩ : BufTy).Contents (Elt F) → (⟨S16x8, .f32⟩ : BufTy).Contents (Elt F)),
    StableHlo.unary main_arg7 main_v161 ((extractStridedSlice S1x16x16 ![1, 0, 0] · slices_S3x16x16_S1x16x16_1_0_0) : (⟨S3x16x16, .f32⟩ : BufTy).Contents (Elt F) → (⟨S1x16x16, .f32⟩ : BufTy).Contents (Elt F)),
    StableHlo.reshape main_v161 main_v162 rfl shapeCasts_S1x16x16_S16x16,
    StableHlo.binary main_v162 main_arg5 main_v163 ((fun l r => Host.dotGeneral dot_S16x16_S16x8_S16x8_1_0_0_1_n_n none l r) : (⟨S16x16, .f32⟩ : BufTy).Contents (Elt F) → (⟨S16x8, .f32⟩ : BufTy).Contents (Elt F) → (⟨S16x8, .f32⟩ : BufTy).Contents (Elt F)),
    StableHlo.binary main_v160 main_v163 main_v164 (addf : (⟨S16x8, .f32⟩ : BufTy).Contents (Elt F) → (⟨S16x8, .f32⟩ : BufTy).Contents (Elt F) → (⟨S16x8, .f32⟩ : BufTy).Contents (Elt F)),
    StableHlo.unary main_v164 main_v165 (Host.negf : (⟨S16x8, .f32⟩ : BufTy).Contents (Elt F) → (⟨S16x8, .f32⟩ : BufTy).Contents (Elt F)),
    StableHlo.unary main_v165 main_v166 (Host.exp : (⟨S16x8, .f32⟩ : BufTy).Contents (Elt F) → (⟨S16x8, .f32⟩ : BufTy).Contents (Elt F)),
    StableHlo.nullary main_cst_31 (constant S_ .f32 0x3F800000#32),
    StableHlo.unary main_cst_31 main_v167 (broadcastInDim S16x8 ![] bcast_S_S16x8 : (⟨S_, .f32⟩ : BufTy).Contents (Elt F) → (⟨S16x8, .f32⟩ : BufTy).Contents (Elt F)),
    StableHlo.binary main_v167 main_v166 main_v168 (addf : (⟨S16x8, .f32⟩ : BufTy).Contents (Elt F) → (⟨S16x8, .f32⟩ : BufTy).Contents (Elt F) → (⟨S16x8, .f32⟩ : BufTy).Contents (Elt F)),
    StableHlo.nullary main_cst_32 (constant S_ .f32 0x3F800000#32),
    StableHlo.unary main_cst_32 main_v169 (broadcastInDim S16x8 ![] bcast_S_S16x8 : (⟨S_, .f32⟩ : BufTy).Contents (Elt F) → (⟨S16x8, .f32⟩ : BufTy).Contents (Elt F)),
    StableHlo.binary main_v169 main_v168 main_v170 (Host.divf : (⟨S16x8, .f32⟩ : BufTy).Contents (Elt F) → (⟨S16x8, .f32⟩ : BufTy).Contents (Elt F) → (⟨S16x8, .f32⟩ : BufTy).Contents (Elt F)),
    StableHlo.unary main_arg6 main_v171 ((extractStridedSlice S1x16x16 ![2, 0, 0] · slices_S3x16x16_S1x16x16_2_0_0) : (⟨S3x16x16, .f32⟩ : BufTy).Contents (Elt F) → (⟨S1x16x16, .f32⟩ : BufTy).Contents (Elt F)),
    StableHlo.reshape main_v171 main_v172 rfl shapeCasts_S1x16x16_S16x16,
    StableHlo.binary main_v172 main_arg5 main_v173 ((fun l r => Host.dotGeneral dot_S16x16_S16x8_S16x8_1_0_0_1_n_n none l r) : (⟨S16x16, .f32⟩ : BufTy).Contents (Elt F) → (⟨S16x8, .f32⟩ : BufTy).Contents (Elt F) → (⟨S16x8, .f32⟩ : BufTy).Contents (Elt F)),
    StableHlo.unary main_arg7 main_v174 ((extractStridedSlice S1x16x16 ![2, 0, 0] · slices_S3x16x16_S1x16x16_2_0_0) : (⟨S3x16x16, .f32⟩ : BufTy).Contents (Elt F) → (⟨S1x16x16, .f32⟩ : BufTy).Contents (Elt F)),
    StableHlo.reshape main_v174 main_v175 rfl shapeCasts_S1x16x16_S16x16,
    StableHlo.binary main_v170 main_arg5 main_v176 (mulf : (⟨S16x8, .f32⟩ : BufTy).Contents (Elt F) → (⟨S16x8, .f32⟩ : BufTy).Contents (Elt F) → (⟨S16x8, .f32⟩ : BufTy).Contents (Elt F)),
    StableHlo.binary main_v175 main_v176 main_v177 ((fun l r => Host.dotGeneral dot_S16x16_S16x8_S16x8_1_0_0_1_n_n none l r) : (⟨S16x16, .f32⟩ : BufTy).Contents (Elt F) → (⟨S16x8, .f32⟩ : BufTy).Contents (Elt F) → (⟨S16x8, .f32⟩ : BufTy).Contents (Elt F)),
    StableHlo.binary main_v173 main_v177 main_v178 (addf : (⟨S16x8, .f32⟩ : BufTy).Contents (Elt F) → (⟨S16x8, .f32⟩ : BufTy).Contents (Elt F) → (⟨S16x8, .f32⟩ : BufTy).Contents (Elt F)),
    StableHlo.unary main_v178 main_v179 (Host.tanh : (⟨S16x8, .f32⟩ : BufTy).Contents (Elt F) → (⟨S16x8, .f32⟩ : BufTy).Contents (Elt F)),
    StableHlo.nullary main_cst_33 (constant S_ .f32 0x3F800000#32),
    StableHlo.unary main_cst_33 main_v180 (broadcastInDim S16x8 ![] bcast_S_S16x8 : (⟨S_, .f32⟩ : BufTy).Contents (Elt F) → (⟨S16x8, .f32⟩ : BufTy).Contents (Elt F)),
    StableHlo.binary main_v180 main_v157 main_v181 (subf : (⟨S16x8, .f32⟩ : BufTy).Contents (Elt F) → (⟨S16x8, .f32⟩ : BufTy).Contents (Elt F) → (⟨S16x8, .f32⟩ : BufTy).Contents (Elt F)),
    StableHlo.binary main_v181 main_arg5 main_v182 (mulf : (⟨S16x8, .f32⟩ : BufTy).Contents (Elt F) → (⟨S16x8, .f32⟩ : BufTy).Contents (Elt F) → (⟨S16x8, .f32⟩ : BufTy).Contents (Elt F)),
    StableHlo.binary main_v157 main_v179 main_v183 (mulf : (⟨S16x8, .f32⟩ : BufTy).Contents (Elt F) → (⟨S16x8, .f32⟩ : BufTy).Contents (Elt F) → (⟨S16x8, .f32⟩ : BufTy).Contents (Elt F)),
    StableHlo.binary main_v182 main_v183 main_v184 (addf : (⟨S16x8, .f32⟩ : BufTy).Contents (Elt F) → (⟨S16x8, .f32⟩ : BufTy).Contents (Elt F) → (⟨S16x8, .f32⟩ : BufTy).Contents (Elt F)),
    StableHlo.unary main_v184 main_v185 ((extractStridedSlice S16x1 ![0, 0] · slices_S16x8_S16x1_0_0) : (⟨S16x8, .f32⟩ : BufTy).Contents (Elt F) → (⟨S16x1, .f32⟩ : BufTy).Contents (Elt F)),
    StableHlo.unary main_v184 main_v186 ((extractStridedSlice S16x1 ![0, 4] · slices_S16x8_S16x1_0_4) : (⟨S16x8, .f32⟩ : BufTy).Contents (Elt F) → (⟨S16x1, .f32⟩ : BufTy).Contents (Elt F)),
    StableHlo.unary main_arg4 main_v187 ((extractStridedSlice S1x256x8 ![0, 0, 0] · slices_S4x256x8_S1x256x8_0_0_0) : (⟨S4x256x8, .f32⟩ : BufTy).Contents (Elt F) → (⟨S1x256x8, .f32⟩ : BufTy).Contents (Elt F)),
    StableHlo.reshape main_v187 main_v188 rfl shapeCasts_S1x256x8_S256x8,
    StableHlo.binary main_v48 main_v48 main_v189 (mulf : (⟨S2048x256, .f32⟩ : BufTy).Contents (Elt F) → (⟨S2048x256, .f32⟩ : BufTy).Contents (Elt F) → (⟨S2048x256, .f32⟩ : BufTy).Contents (Elt F)),
    StableHlo.nullary main_cst_34 (constant S_ .f32 0x00000000#32),
    StableHlo.binary main_v189 main_cst_34 main_v190 ((fun x v => Host.reduceAdd x v reducesTo_S2048x256_S2048_d1 h_S_) : (⟨S2048x256, .f32⟩ : BufTy).Contents (Elt F) → (⟨S_, .f32⟩ : BufTy).Contents (Elt F) → (⟨S2048, .f32⟩ : BufTy).Contents (Elt F)),
    StableHlo.unary main_v190 main_v191 (Host.sqrt : (⟨S2048, .f32⟩ : BufTy).Contents (Elt F) → (⟨S2048, .f32⟩ : BufTy).Contents (Elt F)),
    StableHlo.unary main_v48 main_v192 ((transpose S256x2048 [1, 0] · transposes_S2048x256_S256x2048_1_0) : (⟨S2048x256, .f32⟩ : BufTy).Contents (Elt F) → (⟨S256x2048, .f32⟩ : BufTy).Contents (Elt F)),
    StableHlo.binary main_v48 main_v192 main_v193 ((fun l r => Host.dotGeneral dot_S2048x256_S256x2048_S2048x2048_1_0_0_1_n_n none l r) : (⟨S2048x256, .f32⟩ : BufTy).Contents (Elt F) → (⟨S256x2048, .f32⟩ : BufTy).Contents (Elt F) → (⟨S2048x2048, .f32⟩ : BufTy).Contents (Elt F)),
    StableHlo.unary main_v191 main_v194 (broadcastInDim S2048x1 ![0] bcast_S2048_S2048x1_0 : (⟨S2048, .f32⟩ : BufTy).Contents (Elt F) → (⟨S2048x1, .f32⟩ : BufTy).Contents (Elt F)),
    StableHlo.unary main_v191 main_v195 (broadcastInDim S1x2048 ![1] bcast_S2048_S1x2048_1 : (⟨S2048, .f32⟩ : BufTy).Contents (Elt F) → (⟨S1x2048, .f32⟩ : BufTy).Contents (Elt F)),
    StableHlo.unary main_v194 main_v196 (broadcastInDim S2048x2048 ![0, 1] bcast_S2048x1_S2048x2048_0_1 : (⟨S2048x1, .f32⟩ : BufTy).Contents (Elt F) → (⟨S2048x2048, .f32⟩ : BufTy).Contents (Elt F)),
    StableHlo.unary main_v195 main_v197 (broadcastInDim S2048x2048 ![0, 1] bcast_S1x2048_S2048x2048_0_1 : (⟨S1x2048, .f32⟩ : BufTy).Contents (Elt F) → (⟨S2048x2048, .f32⟩ : BufTy).Contents (Elt F)),
    StableHlo.binary main_v196 main_v197 main_v198 (mulf : (⟨S2048x2048, .f32⟩ : BufTy).Contents (Elt F) → (⟨S2048x2048, .f32⟩ : BufTy).Contents (Elt F) → (⟨S2048x2048, .f32⟩ : BufTy).Contents (Elt F)),
    StableHlo.binary main_v193 main_v198 main_v199 (Host.divf : (⟨S2048x2048, .f32⟩ : BufTy).Contents (Elt F) → (⟨S2048x2048, .f32⟩ : BufTy).Contents (Elt F) → (⟨S2048x2048, .f32⟩ : BufTy).Contents (Elt F)),
    StableHlo.nullary main_v200 (iotaInDim S2048x2048 32 0),
    StableHlo.nullary main_v201 (iotaInDim S2048x2048 32 1),
    StableHlo.nullary main_c (constantI S_ 32 0#32),
    StableHlo.unary main_c main_v202 (broadcastInDim S2048x2048 ![] bcast_S_S2048x2048 : (⟨S_, .i32⟩ : BufTy).Contents (Elt F) → (⟨S2048x2048, .i32⟩ : BufTy).Contents (Elt F)) ]

set_option maxRecDepth 16384 in
set_option maxHeartbeats 4000000 in
/-- The window is that line: the called functions unfold at their calls and sequencing re-associates. -/
theorem main_part3_eq (c : Dev nD) : main_part3 (F := F) c = StableHlo.seq ops_part3 := rfl

set_option maxRecDepth 16384 in
set_option maxHeartbeats 4000000 in
/-- Every operation of the window is good; the result's index is compared by computation. -/
theorem ops_part3_good : (ops_part3 : List (HloOp τ sig (Elt F))).Forall (Good 12) :=
  ⟨binary_good (h := by decide) .., binary_good (h := by decide) .., unary_good (h := by decide) .., unary_good (h := by decide) ..,
    nullary_good (h := by decide) .., unary_good (h := by decide) .., binary_good (h := by decide) .., nullary_good (h := by decide) ..,
    unary_good (h := by decide) .., binary_good (h := by decide) .., unary_good (h := by decide) .., reshape_good (h := by decide) ..,
    binary_good (h := by decide) .., unary_good (h := by decide) .., reshape_good (h := by decide) .., binary_good (h := by decide) ..,
    binary_good (h := by decide) .., unary_good (h := by decide) .., unary_good (h := by decide) .., nullary_good (h := by decide) ..,
    unary_good (h := by decide) .., binary_good (h := by decide) .., nullary_good (h := by decide) .., unary_good (h := by decide) ..,
    binary_good (h := by decide) .., unary_good (h := by decide) .., reshape_good (h := by decide) .., binary_good (h := by decide) ..,
    unary_good (h := by decide) .., reshape_good (h := by decide) .., binary_good (h := by decide) .., binary_good (h := by decide) ..,
    binary_good (h := by decide) .., unary_good (h := by decide) .., nullary_good (h := by decide) .., unary_good (h := by decide) ..,
    binary_good (h := by decide) .., binary_good (h := by decide) .., binary_good (h := by decide) .., binary_good (h := by decide) ..,
    unary_good (h := by decide) .., unary_good (h := by decide) .., unary_good (h := by decide) .., reshape_good (h := by decide) ..,
    binary_good (h := by decide) .., nullary_good (h := by decide) .., binary_good (h := by decide) .., unary_good (h := by decide) ..,
    unary_good (h := by decide) .., binary_good (h := by decide) .., unary_good (h := by decide) .., unary_good (h := by decide) ..,
    unary_good (h := by decide) .., unary_good (h := by decide) .., binary_good (h := by decide) .., binary_good (h := by decide) ..,
    nullary_good (h := by decide) .., nullary_good (h := by decide) .., nullary_good (h := by decide) .., unary_good (h := by decide) ..⟩

end Cert.ReferenceIdeal.Hand

end
-- ==== Proof.Ref.W04.lean ====
import proofs.«146970_j35948876268088_1_alg».proof.ReferenceIdeal.P02
import proofs.«146970_j35948876268088_1_alg».proof.Proof.Ref.Keep

noncomputable section

namespace Cert.ReferenceIdeal.Hand

open Cert.ReferenceIdeal Idealize.ShloMosaic Idealize.ShloMosaic.TcCoe Idealize.SL.Sem Idealize.ShloMosaic.StableHlo

variable {F : FTy → Type} [FloatOps F]

variable [Facts]
open Facts₀ Facts

set_option maxHeartbeats 4000000 in
/-- The operations of window 4, in order; a called function's operations stand in its call's place. -/
abbrev ops_part4 : List (HloOp τ sig (Elt F)) :=
  [ StableHlo.binary main_v200 main_v202 main_v203 (addi : (⟨S2048x2048, .i32⟩ : BufTy).Contents (Elt F) → (⟨S2048x2048, .i32⟩ : BufTy).Contents (Elt F) → (⟨S2048x2048, .i32⟩ : BufTy).Contents (Elt F)),
    StableHlo.binary main_v203 main_v201 main_v204 (cmpi .eq : (⟨S2048x2048, .i32⟩ : BufTy).Contents (Elt F) → (⟨S2048x2048, .i32⟩ : BufTy).Contents (Elt F) → (⟨S2048x2048, .i1⟩ : BufTy).Contents (Elt F)),
    StableHlo.unary main_v204 main_v205 (uitofp .f32 : (⟨S2048x2048, .i1⟩ : BufTy).Contents (Elt F) → (⟨S2048x2048, .f32⟩ : BufTy).Contents (Elt F)),
    StableHlo.nullary main_cst_35 (constant S_ .f32 0x3F800000#32),
    StableHlo.unary main_cst_35 main_v206 (broadcastInDim S2048x2048 ![] bcast_S_S2048x2048 : (⟨S_, .f32⟩ : BufTy).Contents (Elt F) → (⟨S2048x2048, .f32⟩ : BufTy).Contents (Elt F)),
    StableHlo.binary main_v206 main_v205 main_v207 (subf : (⟨S2048x2048, .f32⟩ : BufTy).Contents (Elt F) → (⟨S2048x2048, .f32⟩ : BufTy).Contents (Elt F) → (⟨S2048x2048, .f32⟩ : BufTy).Contents (Elt F)),
    StableHlo.nullary main_cst_36 (constant S_ .f32 0x3F000000#32),
    StableHlo.unary main_cst_36 main_v208 (broadcastInDim S2048x2048 ![] bcast_S_S2048x2048 : (⟨S_, .f32⟩ : BufTy).Contents (Elt F) → (⟨S2048x2048, .f32⟩ : BufTy).Contents (Elt F)),
    StableHlo.binary main_v199 main_v208 main_v209 (cmpf .ogt : (⟨S2048x2048, .f32⟩ : BufTy).Contents (Elt F) → (⟨S2048x2048, .f32⟩ : BufTy).Contents (Elt F) → (⟨S2048x2048, .i1⟩ : BufTy).Contents (Elt F)),
    StableHlo.nullary main_cst_37 (constant S_ .f32 0x00000000#32),
    StableHlo.TRef.unary (StableHlo.TRef.of (T := ⟨S_, .f32⟩) main_cst_37) main_call0.v0 id,
    StableHlo.TRef.unary main_call0.v0 main_call0.v1 (broadcastInDim S2048x2048 ![] bcast_S_S2048x2048),
    StableHlo.TRef.ternary (StableHlo.TRef.of (T := ⟨S2048x2048, .i1⟩) main_v209) (StableHlo.TRef.of (T := ⟨S2048x2048, .f32⟩) main_v199) main_call0.v1 main_call0.v2 select,
    StableHlo.binary main_v210 main_v207 main_v211 (mulf : (⟨S2048x2048, .f32⟩ : BufTy).Contents (Elt F) → (⟨S2048x2048, .f32⟩ : BufTy).Contents (Elt F) → (⟨S2048x2048, .f32⟩ : BufTy).Contents (Elt F)),
    StableHlo.unary main_v26 main_v212 ((transpose S2048x2048 [1, 0] · transposes_S2048x2048_S2048x2048_1_0) : (⟨S2048x2048, .f32⟩ : BufTy).Contents (Elt F) → (⟨S2048x2048, .f32⟩ : BufTy).Contents (Elt F)),
    StableHlo.binary main_v26 main_v212 main_v213 ((fun l r => Host.dotGeneral dot_S2048x2048_S2048x2048_S2048x2048_1_0_0_1_n_n none l r) : (⟨S2048x2048, .f32⟩ : BufTy).Contents (Elt F) → (⟨S2048x2048, .f32⟩ : BufTy).Contents (Elt F) → (⟨S2048x2048, .f32⟩ : BufTy).Contents (Elt F)),
    StableHlo.nullary main_cst_38 (constant S_ .f32 0x00000000#32),
    StableHlo.unary main_cst_38 main_v214 (broadcastInDim S2048x2048 ![] bcast_S_S2048x2048 : (⟨S_, .f32⟩ : BufTy).Contents (Elt F) → (⟨S2048x2048, .f32⟩ : BufTy).Contents (Elt F)),
    StableHlo.binary main_v213 main_v214 main_v215 (cmpf .ogt : (⟨S2048x2048, .f32⟩ : BufTy).Contents (Elt F) → (⟨S2048x2048, .f32⟩ : BufTy).Contents (Elt F) → (⟨S2048x2048, .i1⟩ : BufTy).Contents (Elt F)),
    StableHlo.unary main_v215 main_v216 (uitofp .f32 : (⟨S2048x2048, .i1⟩ : BufTy).Contents (Elt F) → (⟨S2048x2048, .f32⟩ : BufTy).Contents (Elt F)),
    StableHlo.binary main_v216 main_v207 main_v217 (mulf : (⟨S2048x2048, .f32⟩ : BufTy).Contents (Elt F) → (⟨S2048x2048, .f32⟩ : BufTy).Contents (Elt F) → (⟨S2048x2048, .f32⟩ : BufTy).Contents (Elt F)),
    StableHlo.binary main_v211 main_v217 main_v218 (mulf : (⟨S2048x2048, .f32⟩ : BufTy).Contents (Elt F) → (⟨S2048x2048, .f32⟩ : BufTy).Contents (Elt F) → (⟨S2048x2048, .f32⟩ : BufTy).Contents (Elt F)),
    StableHlo.nullary main_cst_39 (constant S_ .f32 0x00000000#32),
    StableHlo.binary main_v218 main_cst_39 main_v219 ((fun x v => Host.reduceAdd x v reducesTo_S2048x2048_S2048_d1 h_S_) : (⟨S2048x2048, .f32⟩ : BufTy).Contents (Elt F) → (⟨S_, .f32⟩ : BufTy).Contents (Elt F) → (⟨S2048, .f32⟩ : BufTy).Contents (Elt F)),
    StableHlo.unary main_v219 main_v220 (broadcastInDim S2048x1 ![0] bcast_S2048_S2048x1_0 : (⟨S2048, .f32⟩ : BufTy).Contents (Elt F) → (⟨S2048x1, .f32⟩ : BufTy).Contents (Elt F)),
    StableHlo.unary main_v220 main_v221 (broadcastInDim S2048x2048 ![0, 1] bcast_S2048x1_S2048x2048_0_1 : (⟨S2048x1, .f32⟩ : BufTy).Contents (Elt F) → (⟨S2048x2048, .f32⟩ : BufTy).Contents (Elt F)),
    StableHlo.binary main_v26 main_v221 main_v222 (mulf : (⟨S2048x2048, .f32⟩ : BufTy).Contents (Elt F) → (⟨S2048x2048, .f32⟩ : BufTy).Contents (Elt F) → (⟨S2048x2048, .f32⟩ : BufTy).Contents (Elt F)),
    StableHlo.nullary main_cst_40 (constant S_ .f32 0x00000000#32),
    StableHlo.binary main_v222 main_cst_40 main_v223 ((fun x v => Host.reduceAdd x v reducesTo_S2048x2048_S2048_d0 h_S_) : (⟨S2048x2048, .f32⟩ : BufTy).Contents (Elt F) → (⟨S_, .f32⟩ : BufTy).Contents (Elt F) → (⟨S2048, .f32⟩ : BufTy).Contents (Elt F)),
    StableHlo.unary main_v223 main_v224 (broadcastInDim S2048x1 ![0] bcast_S2048_S2048x1_0 : (⟨S2048, .f32⟩ : BufTy).Contents (Elt F) → (⟨S2048x1, .f32⟩ : BufTy).Contents (Elt F)),
    StableHlo.binary main_v48 main_v188 main_v225 ((fun l r => Host.dotGeneral dot_S2048x256_S256x8_S2048x8_1_0_0_1_n_n none l r) : (⟨S2048x256, .f32⟩ : BufTy).Contents (Elt F) → (⟨S256x8, .f32⟩ : BufTy).Contents (Elt F) → (⟨S2048x8, .f32⟩ : BufTy).Contents (Elt F)),
    StableHlo.binary main_v48 main_v188 main_v226 ((fun l r => Host.dotGeneral dot_S2048x256_S256x8_S2048x8_1_0_0_1_n_n none l r) : (⟨S2048x256, .f32⟩ : BufTy).Contents (Elt F) → (⟨S256x8, .f32⟩ : BufTy).Contents (Elt F) → (⟨S2048x8, .f32⟩ : BufTy).Contents (Elt F)),
    StableHlo.binary main_v41 main_v188 main_v227 ((fun l r => Host.dotGeneral dot_S2048x256_S256x8_S2048x8_1_0_0_1_n_n none l r) : (⟨S2048x256, .f32⟩ : BufTy).Contents (Elt F) → (⟨S256x8, .f32⟩ : BufTy).Contents (Elt F) → (⟨S2048x8, .f32⟩ : BufTy).Contents (Elt F)),
    StableHlo.unary main_v185 main_v228 ((extractStridedSlice S8x1 ![0, 0] · slices_S16x1_S8x1_0_0) : (⟨S16x1, .f32⟩ : BufTy).Contents (Elt F) → (⟨S8x1, .f32⟩ : BufTy).Contents (Elt F)),
    StableHlo.binary main_v226 main_v228 main_v229 ((fun l r => Host.dotGeneral dot_S2048x8_S8x1_S2048x1_1_0_0_1_n_n none l r) : (⟨S2048x8, .f32⟩ : BufTy).Contents (Elt F) → (⟨S8x1, .f32⟩ : BufTy).Contents (Elt F) → (⟨S2048x1, .f32⟩ : BufTy).Contents (Elt F)),
    StableHlo.unary main_v185 main_v230 ((extractStridedSlice S8x1 ![8, 0] · slices_S16x1_S8x1_8_0) : (⟨S16x1, .f32⟩ : BufTy).Contents (Elt F) → (⟨S8x1, .f32⟩ : BufTy).Contents (Elt F)),
    StableHlo.binary main_v227 main_v230 main_v231 ((fun l r => Host.dotGeneral dot_S2048x8_S8x1_S2048x1_1_0_0_1_n_n none l r) : (⟨S2048x8, .f32⟩ : BufTy).Contents (Elt F) → (⟨S8x1, .f32⟩ : BufTy).Contents (Elt F) → (⟨S2048x1, .f32⟩ : BufTy).Contents (Elt F)),
    StableHlo.unary main_v231 main_v232 ((transpose S1x2048 [1, 0] · transposes_S2048x1_S1x2048_1_0) : (⟨S2048x1, .f32⟩ : BufTy).Contents (Elt F) → (⟨S1x2048, .f32⟩ : BufTy).Contents (Elt F)),
    StableHlo.unary main_v229 main_v233 (broadcastInDim S2048x2048 ![0, 1] bcast_S2048x1_S2048x2048_0_1 : (⟨S2048x1, .f32⟩ : BufTy).Contents (Elt F) → (⟨S2048x2048, .f32⟩ : BufTy).Contents (Elt F)),
    StableHlo.unary main_v232 main_v234 (broadcastInDim S2048x2048 ![0, 1] bcast_S1x2048_S2048x2048_0_1 : (⟨S1x2048, .f32⟩ : BufTy).Contents (Elt F) → (⟨S2048x2048, .f32⟩ : BufTy).Contents (Elt F)),
    StableHlo.binary main_v233 main_v234 main_v235 (addf : (⟨S2048x2048, .f32⟩ : BufTy).Contents (Elt F) → (⟨S2048x2048, .f32⟩ : BufTy).Contents (Elt F) → (⟨S2048x2048, .f32⟩ : BufTy).Contents (Elt F)),
    StableHlo.nullary main_cst_41 (constant S_ .f32 0x3E4CCCCD#32),
    StableHlo.TRef.nullary main_call1.cst (constant S_ .f32 0x00000000#32),
    StableHlo.TRef.unary main_call1.cst main_call1.v0 (broadcastInDim S2048x2048 ![] bcast_S_S2048x2048),
    StableHlo.TRef.binary (StableHlo.TRef.of (T := ⟨S2048x2048, .f32⟩) main_v235) main_call1.v0 main_call1.v1 (cmpf .oge),
    StableHlo.TRef.unary (StableHlo.TRef.of (T := ⟨S_, .f32⟩) main_cst_41) main_call1.v2 id,
    StableHlo.TRef.unary main_call1.v2 main_call1.v3 (broadcastInDim S2048x2048 ![] bcast_S_S2048x2048),
    StableHlo.TRef.binary main_call1.v3 (StableHlo.TRef.of (T := ⟨S2048x2048, .f32⟩) main_v235) main_call1.v4 mulf,
    StableHlo.TRef.ternary main_call1.v1 (StableHlo.TRef.of (T := ⟨S2048x2048, .f32⟩) main_v235) main_call1.v4 main_call1.call0.v0 select,
    StableHlo.nullary main_cst_42 (constant S_ .f32 0x7F800000#32),
    StableHlo.binary main_v220 main_cst_42 main_v237 ((fun x v => Host.reduce FloatOps.minimumf x v reducesTo_S2048x1_S_d0_1 h_S_) : (⟨S2048x1, .f32⟩ : BufTy).Contents (Elt F) → (⟨S_, .f32⟩ : BufTy).Contents (Elt F) → (⟨S_, .f32⟩ : BufTy).Contents (Elt F)),
    StableHlo.unary main_v237 main_v238 (broadcastInDim S2048x1 ![] bcast_S_S2048x1 : (⟨S_, .f32⟩ : BufTy).Contents (Elt F) → (⟨S2048x1, .f32⟩ : BufTy).Contents (Elt F)),
    StableHlo.binary main_v220 main_v238 main_v239 (subf : (⟨S2048x1, .f32⟩ : BufTy).Contents (Elt F) → (⟨S2048x1, .f32⟩ : BufTy).Contents (Elt F) → (⟨S2048x1, .f32⟩ : BufTy).Contents (Elt F)),
    StableHlo.nullary main_cst_43 (constant S_ .f32 0xFF800000#32),
    StableHlo.binary main_v220 main_cst_43 main_v240 ((fun x v => Host.reduce FloatOps.maximumf x v reducesTo_S2048x1_S_d0_1 h_S_) : (⟨S2048x1, .f32⟩ : BufTy).Contents (Elt F) → (⟨S_, .f32⟩ : BufTy).Contents (Elt F) → (⟨S_, .f32⟩ : BufTy).Contents (Elt F)),
    StableHlo.nullary main_cst_44 (constant S_ .f32 0x7F800000#32),
    StableHlo.binary main_v220 main_cst_44 main_v241 ((fun x v => Host.reduce FloatOps.minimumf x v reducesTo_S2048x1_S_d0_1 h_S_) : (⟨S2048x1, .f32⟩ : BufTy).Contents (Elt F) → (⟨S_, .f32⟩ : BufTy).Contents (Elt F) → (⟨S_, .f32⟩ : BufTy).Contents (Elt F)),
    StableHlo.binary main_v240 main_v241 main_v242 (subf : (⟨S_, .f32⟩ : BufTy).Contents (Elt F) → (⟨S_, .f32⟩ : BufTy).Contents (Elt F) → (⟨S_, .f32⟩ : BufTy).Contents (Elt F)),
    StableHlo.unary main_v242 main_v243 (broadcastInDim S2048x1 ![] bcast_S_S2048x1 : (⟨S_, .f32⟩ : BufTy).Contents (Elt F) → (⟨S2048x1, .f32⟩ : BufTy).Contents (Elt F)),
    StableHlo.binary main_v239 main_v243 main_v244 (Host.divf : (⟨S2048x1, .f32⟩ : BufTy).Contents (Elt F) → (⟨S2048x1, .f32⟩ : BufTy).Contents (Elt F) → (⟨S2048x1, .f32⟩ : BufTy).Contents (Elt F)),
    StableHlo.nullary main_cst_45 (constant S_ .f32 0xFF800000#32),
    StableHlo.binary main_v236 main_cst_45 main_v245 ((fun x v => Host.reduce FloatOps.maximumf x v reducesTo_S2048x2048_S_d0_1 h_S_) : (⟨S2048x2048, .f32⟩ : BufTy).Contents (Elt F) → (⟨S_, .f32⟩ : BufTy).Contents (Elt F) → (⟨S_, .f32⟩ : BufTy).Contents (Elt F)),
    StableHlo.unary main_v245 main_v246 (broadcastInDim S2048x1 ![] bcast_S_S2048x1 : (⟨S_, .f32⟩ : BufTy).Contents (Elt F) → (⟨S2048x1, .f32⟩ : BufTy).Contents (Elt F)),
    StableHlo.binary main_v244 main_v246 main_v247 (mulf : (⟨S2048x1, .f32⟩ : BufTy).Contents (Elt F) → (⟨S2048x1, .f32⟩ : BufTy).Contents (Elt F) → (⟨S2048x1, .f32⟩ : BufTy).Contents (Elt F)),
    StableHlo.nullary main_cst_46 (constant S_ .f32 0x00000000#32),
    StableHlo.unary main_cst_46 main_v248 (broadcastInDim S2048x2048 ![] bcast_S_S2048x2048 : (⟨S_, .f32⟩ : BufTy).Contents (Elt F) → (⟨S2048x2048, .f32⟩ : BufTy).Contents (Elt F)),
    StableHlo.binary main_v26 main_v248 main_v249 (cmpf .ogt : (⟨S2048x2048, .f32⟩ : BufTy).Contents (Elt F) → (⟨S2048x2048, .f32⟩ : BufTy).Contents (Elt F) → (⟨S2048x2048, .i1⟩ : BufTy).Contents (Elt F)),
    StableHlo.unary main_v247 main_v250 (broadcastInDim S2048x2048 ![0, 1] bcast_S2048x1_S2048x2048_0_1 : (⟨S2048x1, .f32⟩ : BufTy).Contents (Elt F) → (⟨S2048x2048, .f32⟩ : BufTy).Contents (Elt F)) ]

set_option maxRecDepth 16384 in
set_option maxHeartbeats 4000000 in
/-- The window is that line: the called functions unfold at their calls and sequencing re-associates. -/
theorem main_part4_eq (c : Dev nD) : main_part4 (F := F) c = StableHlo.seq ops_part4 := rfl

set_option maxRecDepth 16384 in
set_option maxHeartbeats 4000000 in
/-- Every operation of the window is good; the result's index is compared by computation. -/
theorem ops_part4_good : (ops_part4 : List (HloOp τ sig (Elt F))).Forall (Good 12) :=
  ⟨binary_good (h := by decide) .., binary_good (h := by decide) .., unary_good (h := by decide) .., nullary_good (h := by decide) ..,
    unary_good (h := by decide) .., binary_good (h := by decide) .., nullary_good (h := by decide) .., unary_good (h := by decide) ..,
    binary_good (h := by decide) .., nullary_good (h := by decide) .., unary_good (h := by decide) .., unary_good (h := by decide) ..,
    ternary_good (h := by decide) .., binary_good (h := by decide) .., unary_good (h := by decide) .., binary_good (h := by decide) ..,
    nullary_good (h := by decide) .., unary_good (h := by decide) .., binary_good (h := by decide) .., unary_good (h := by decide) ..,
    binary_good (h := by decide) .., binary_good (h := by decide) .., nullary_good (h := by decide) .., binary_good (h := by decide) ..,
    unary_good (h := by decide) .., unary_good (h := by decide) .., binary_good (h := by decide) .., nullary_good (h := by decide) ..,
    binary_good (h := by decide) .., unary_good (h := by decide) .., binary_good (h := by decide) .., binary_good (h := by decide) ..,
    binary_good (h := by decide) .., unary_good (h := by decide) .., binary_good (h := by decide) .., unary_good (h := by decide) ..,
    binary_good (h := by decide) .., unary_good (h := by decide) .., unary_good (h := by decide) .., unary_good (h := by decide) ..,
    binary_good (h := by decide) .., nullary_good (h := by decide) .., nullary_good (h := by decide) .., unary_good (h := by decide) ..,
    binary_good (h := by decide) .., unary_good (h := by decide) .., unary_good (h := by decide) .., binary_good (h := by decide) ..,
    ternary_good (h := by decide) .., nullary_good (h := by decide) .., binary_good (h := by decide) .., unary_good (h := by decide) ..,
    binary_good (h := by decide) .., nullary_good (h := by decide) .., binary_good (h := by decide) .., nullary_good (h := by decide) ..,
    binary_good (h := by decide) .., binary_good (h := by decide) .., unary_good (h := by decide) .., binary_good (h := by decide) ..,
    nullary_good (h := by decide) .., binary_good (h := by decide) .., unary_good (h := by decide) .., binary_good (h := by decide) ..,
    nullary_good (h := by decide) .., unary_good (h := by decide) .., binary_good (h := by decide) .., unary_good (h := by decide) ..⟩

end Cert.ReferenceIdeal.Hand

end
-- ==== Proof.Ref.W05.lean ====
import proofs.«146970_j35948876268088_1_alg».proof.ReferenceIdeal.P02
import proofs.«146970_j35948876268088_1_alg».proof.Proof.Ref.Keep

noncomputable section

namespace Cert.ReferenceIdeal.Hand

open Cert.ReferenceIdeal Idealize.ShloMosaic Idealize.ShloMosaic.TcCoe Idealize.SL.Sem Idealize.ShloMosaic.StableHlo

variable {F : FTy → Type} [FloatOps F]

variable [Facts]
open Facts₀ Facts

set_option maxHeartbeats 4000000 in
/-- The operations of window 5, in order; a called function's operations stand in its call's place. -/
abbrev ops_part5 : List (HloOp τ sig (Elt F)) :=
  [ StableHlo.binary main_v236 main_v250 main_v251 (addf : (⟨S2048x2048, .f32⟩ : BufTy).Contents (Elt F) → (⟨S2048x2048, .f32⟩ : BufTy).Contents (Elt F) → (⟨S2048x2048, .f32⟩ : BufTy).Contents (Elt F)),
    StableHlo.nullary main_cst_47 (constant S_ .f32 0xD368D4A5#32),
    StableHlo.TRef.unary (StableHlo.TRef.of (T := ⟨S_, .f32⟩) main_cst_47) main_call2.v0 id,
    StableHlo.TRef.unary main_call2.v0 main_call2.v1 (broadcastInDim S2048x2048 ![] bcast_S_S2048x2048),
    StableHlo.TRef.ternary (StableHlo.TRef.of (T := ⟨S2048x2048, .i1⟩) main_v249) (StableHlo.TRef.of (T := ⟨S2048x2048, .f32⟩) main_v251) main_call2.v1 main_call2.v2 select,
    StableHlo.nullary main_cst_48 (constant S_ .f32 0xFF800000#32),
    StableHlo.binary main_v252 main_cst_48 main_v253 ((fun x v => Host.reduce FloatOps.maximumf x v reducesTo_S2048x2048_S2048_d1 h_S_) : (⟨S2048x2048, .f32⟩ : BufTy).Contents (Elt F) → (⟨S_, .f32⟩ : BufTy).Contents (Elt F) → (⟨S2048, .f32⟩ : BufTy).Contents (Elt F)),
    StableHlo.nullary main_cst_49 (constant S_ .f32 0xFF800000#32),
    StableHlo.unary main_cst_49 main_v254 (broadcastInDim S2048 ![] bcast_S_S2048 : (⟨S_, .f32⟩ : BufTy).Contents (Elt F) → (⟨S2048, .f32⟩ : BufTy).Contents (Elt F)),
    StableHlo.binary main_v254 main_v253 main_v255 (maximumf : (⟨S2048, .f32⟩ : BufTy).Contents (Elt F) → (⟨S2048, .f32⟩ : BufTy).Contents (Elt F) → (⟨S2048, .f32⟩ : BufTy).Contents (Elt F)),
    StableHlo.unary main_v255 main_v256 (broadcastInDim S2048x1 ![0] bcast_S2048_S2048x1_0 : (⟨S2048, .f32⟩ : BufTy).Contents (Elt F) → (⟨S2048x1, .f32⟩ : BufTy).Contents (Elt F)),
    StableHlo.unary main_v256 main_v257 (broadcastInDim S2048x2048 ![0, 1] bcast_S2048x1_S2048x2048_0_1 : (⟨S2048x1, .f32⟩ : BufTy).Contents (Elt F) → (⟨S2048x2048, .f32⟩ : BufTy).Contents (Elt F)),
    StableHlo.binary main_v252 main_v257 main_v258 (subf : (⟨S2048x2048, .f32⟩ : BufTy).Contents (Elt F) → (⟨S2048x2048, .f32⟩ : BufTy).Contents (Elt F) → (⟨S2048x2048, .f32⟩ : BufTy).Contents (Elt F)),
    StableHlo.unary main_v258 main_v259 (Host.exp : (⟨S2048x2048, .f32⟩ : BufTy).Contents (Elt F) → (⟨S2048x2048, .f32⟩ : BufTy).Contents (Elt F)),
    StableHlo.nullary main_cst_50 (constant S_ .f32 0x00000000#32),
    StableHlo.binary main_v259 main_cst_50 main_v260 ((fun x v => Host.reduceAdd x v reducesTo_S2048x2048_S2048_d1 h_S_) : (⟨S2048x2048, .f32⟩ : BufTy).Contents (Elt F) → (⟨S_, .f32⟩ : BufTy).Contents (Elt F) → (⟨S2048, .f32⟩ : BufTy).Contents (Elt F)),
    StableHlo.unary main_v260 main_v261 (broadcastInDim S2048x1 ![0] bcast_S2048_S2048x1_0 : (⟨S2048, .f32⟩ : BufTy).Contents (Elt F) → (⟨S2048x1, .f32⟩ : BufTy).Contents (Elt F)),
    StableHlo.unary main_v261 main_v262 (broadcastInDim S2048x2048 ![0, 1] bcast_S2048x1_S2048x2048_0_1 : (⟨S2048x1, .f32⟩ : BufTy).Contents (Elt F) → (⟨S2048x2048, .f32⟩ : BufTy).Contents (Elt F)),
    StableHlo.binary main_v259 main_v262 main_v263 (Host.divf : (⟨S2048x2048, .f32⟩ : BufTy).Contents (Elt F) → (⟨S2048x2048, .f32⟩ : BufTy).Contents (Elt F) → (⟨S2048x2048, .f32⟩ : BufTy).Contents (Elt F)),
    StableHlo.unary main_v263 main_v264 ((transpose S2048x2048 [1, 0] · transposes_S2048x2048_S2048x2048_1_0) : (⟨S2048x2048, .f32⟩ : BufTy).Contents (Elt F) → (⟨S2048x2048, .f32⟩ : BufTy).Contents (Elt F)),
    StableHlo.binary main_v264 main_v225 main_v265 ((fun l r => Host.dotGeneral dot_S2048x2048_S2048x8_S2048x8_1_0_0_1_n_n none l r) : (⟨S2048x2048, .f32⟩ : BufTy).Contents (Elt F) → (⟨S2048x8, .f32⟩ : BufTy).Contents (Elt F) → (⟨S2048x8, .f32⟩ : BufTy).Contents (Elt F)),
    StableHlo.TRef.nullary main_call3.cst (constant S_ .f32 0x00000000#32),
    StableHlo.TRef.unary main_call3.cst main_call3.v0 (broadcastInDim S2048x8 ![] bcast_S_S2048x8),
    StableHlo.TRef.binary (StableHlo.TRef.of (T := ⟨S2048x8, .f32⟩) main_v265) main_call3.v0 main_call3.v1 (cmpf .ogt),
    StableHlo.TRef.nullary main_call3.cst_0 (constant S_ .f32 0x00000000#32),
    StableHlo.TRef.unary main_call3.cst_0 main_call3.v2 (broadcastInDim S2048x8 ![] bcast_S_S2048x8),
    StableHlo.TRef.binary (StableHlo.TRef.of (T := ⟨S2048x8, .f32⟩) main_v265) main_call3.v2 main_call3.v3 (cmpf .ogt),
    StableHlo.TRef.nullary main_call3.cst_1 (constant S_ .f32 0x00000000#32),
    StableHlo.TRef.unary main_call3.cst_1 main_call3.call0.v0 id,
    StableHlo.TRef.unary main_call3.call0.v0 main_call3.call0.v1 (broadcastInDim S2048x8 ![] bcast_S_S2048x8),
    StableHlo.TRef.ternary main_call3.v3 main_call3.call0.v1 (StableHlo.TRef.of (T := ⟨S2048x8, .f32⟩) main_v265) main_call3.call0.v2 select,
    StableHlo.TRef.unary main_call3.call0.v2 main_call3.v5 Host.expm1,
    StableHlo.TRef.nullary main_call3.cst_2 (constant S_ .f32 0x3F800000#32),
    StableHlo.TRef.unary main_call3.cst_2 main_call3.v6 (broadcastInDim S2048x8 ![] bcast_S_S2048x8),
    StableHlo.TRef.binary main_call3.v6 main_call3.v5 main_call3.v7 mulf,
    StableHlo.TRef.ternary main_call3.v1 (StableHlo.TRef.of (T := ⟨S2048x8, .f32⟩) main_v265) main_call3.v7 main_call3.call1.v0 select,
    StableHlo.unary main_v26 main_v267 ((transpose S2048x2048 [1, 0] · transposes_S2048x2048_S2048x2048_1_0) : (⟨S2048x2048, .f32⟩ : BufTy).Contents (Elt F) → (⟨S2048x2048, .f32⟩ : BufTy).Contents (Elt F)),
    StableHlo.binary main_v41 main_v188 main_v268 ((fun l r => Host.dotGeneral dot_S2048x256_S256x8_S2048x8_1_0_0_1_n_n none l r) : (⟨S2048x256, .f32⟩ : BufTy).Contents (Elt F) → (⟨S256x8, .f32⟩ : BufTy).Contents (Elt F) → (⟨S2048x8, .f32⟩ : BufTy).Contents (Elt F)),
    StableHlo.binary main_v48 main_v188 main_v269 ((fun l r => Host.dotGeneral dot_S2048x256_S256x8_S2048x8_1_0_0_1_n_n none l r) : (⟨S2048x256, .f32⟩ : BufTy).Contents (Elt F) → (⟨S256x8, .f32⟩ : BufTy).Contents (Elt F) → (⟨S2048x8, .f32⟩ : BufTy).Contents (Elt F)),
    StableHlo.unary main_v186 main_v270 ((extractStridedSlice S8x1 ![0, 0] · slices_S16x1_S8x1_0_0) : (⟨S16x1, .f32⟩ : BufTy).Contents (Elt F) → (⟨S8x1, .f32⟩ : BufTy).Contents (Elt F)),
    StableHlo.binary main_v268 main_v270 main_v271 ((fun l r => Host.dotGeneral dot_S2048x8_S8x1_S2048x1_1_0_0_1_n_n none l r) : (⟨S2048x8, .f32⟩ : BufTy).Contents (Elt F) → (⟨S8x1, .f32⟩ : BufTy).Contents (Elt F) → (⟨S2048x1, .f32⟩ : BufTy).Contents (Elt F)),
    StableHlo.unary main_v186 main_v272 ((extractStridedSlice S8x1 ![8, 0] · slices_S16x1_S8x1_8_0) : (⟨S16x1, .f32⟩ : BufTy).Contents (Elt F) → (⟨S8x1, .f32⟩ : BufTy).Contents (Elt F)),
    StableHlo.binary main_v269 main_v272 main_v273 ((fun l r => Host.dotGeneral dot_S2048x8_S8x1_S2048x1_1_0_0_1_n_n none l r) : (⟨S2048x8, .f32⟩ : BufTy).Contents (Elt F) → (⟨S8x1, .f32⟩ : BufTy).Contents (Elt F) → (⟨S2048x1, .f32⟩ : BufTy).Contents (Elt F)),
    StableHlo.unary main_v273 main_v274 ((transpose S1x2048 [1, 0] · transposes_S2048x1_S1x2048_1_0) : (⟨S2048x1, .f32⟩ : BufTy).Contents (Elt F) → (⟨S1x2048, .f32⟩ : BufTy).Contents (Elt F)),
    StableHlo.unary main_v271 main_v275 (broadcastInDim S2048x2048 ![0, 1] bcast_S2048x1_S2048x2048_0_1 : (⟨S2048x1, .f32⟩ : BufTy).Contents (Elt F) → (⟨S2048x2048, .f32⟩ : BufTy).Contents (Elt F)),
    StableHlo.unary main_v274 main_v276 (broadcastInDim S2048x2048 ![0, 1] bcast_S1x2048_S2048x2048_0_1 : (⟨S1x2048, .f32⟩ : BufTy).Contents (Elt F) → (⟨S2048x2048, .f32⟩ : BufTy).Contents (Elt F)),
    StableHlo.binary main_v275 main_v276 main_v277 (addf : (⟨S2048x2048, .f32⟩ : BufTy).Contents (Elt F) → (⟨S2048x2048, .f32⟩ : BufTy).Contents (Elt F) → (⟨S2048x2048, .f32⟩ : BufTy).Contents (Elt F)),
    StableHlo.nullary main_cst_51 (constant S_ .f32 0x3E4CCCCD#32),
    StableHlo.TRef.nullary main_call4.cst (constant S_ .f32 0x00000000#32),
    StableHlo.TRef.unary main_call4.cst main_call4.v0 (broadcastInDim S2048x2048 ![] bcast_S_S2048x2048),
    StableHlo.TRef.binary (StableHlo.TRef.of (T := ⟨S2048x2048, .f32⟩) main_v277) main_call4.v0 main_call4.v1 (cmpf .oge),
    StableHlo.TRef.unary (StableHlo.TRef.of (T := ⟨S_, .f32⟩) main_cst_51) main_call4.v2 id,
    StableHlo.TRef.unary main_call4.v2 main_call4.v3 (broadcastInDim S2048x2048 ![] bcast_S_S2048x2048),
    StableHlo.TRef.binary main_call4.v3 (StableHlo.TRef.of (T := ⟨S2048x2048, .f32⟩) main_v277) main_call4.v4 mulf,
    StableHlo.TRef.ternary main_call4.v1 (StableHlo.TRef.of (T := ⟨S2048x2048, .f32⟩) main_v277) main_call4.v4 main_call4.call0.v0 select,
    StableHlo.nullary main_cst_52 (constant S_ .f32 0x7F800000#32),
    StableHlo.binary main_v224 main_cst_52 main_v279 ((fun x v => Host.reduce FloatOps.minimumf x v reducesTo_S2048x1_S_d0_1 h_S_) : (⟨S2048x1, .f32⟩ : BufTy).Contents (Elt F) → (⟨S_, .f32⟩ : BufTy).Contents (Elt F) → (⟨S_, .f32⟩ : BufTy).Contents (Elt F)),
    StableHlo.unary main_v279 main_v280 (broadcastInDim S2048x1 ![] bcast_S_S2048x1 : (⟨S_, .f32⟩ : BufTy).Contents (Elt F) → (⟨S2048x1, .f32⟩ : BufTy).Contents (Elt F)),
    StableHlo.binary main_v224 main_v280 main_v281 (subf : (⟨S2048x1, .f32⟩ : BufTy).Contents (Elt F) → (⟨S2048x1, .f32⟩ : BufTy).Contents (Elt F) → (⟨S2048x1, .f32⟩ : BufTy).Contents (Elt F)),
    StableHlo.nullary main_cst_53 (constant S_ .f32 0xFF800000#32),
    StableHlo.binary main_v224 main_cst_53 main_v282 ((fun x v => Host.reduce FloatOps.maximumf x v reducesTo_S2048x1_S_d0_1 h_S_) : (⟨S2048x1, .f32⟩ : BufTy).Contents (Elt F) → (⟨S_, .f32⟩ : BufTy).Contents (Elt F) → (⟨S_, .f32⟩ : BufTy).Contents (Elt F)),
    StableHlo.nullary main_cst_54 (constant S_ .f32 0x7F800000#32),
    StableHlo.binary main_v224 main_cst_54 main_v283 ((fun x v => Host.reduce FloatOps.minimumf x v reducesTo_S2048x1_S_d0_1 h_S_) : (⟨S2048x1, .f32⟩ : BufTy).Contents (Elt F) → (⟨S_, .f32⟩ : BufTy).Contents (Elt F) → (⟨S_, .f32⟩ : BufTy).Contents (Elt F)),
    StableHlo.binary main_v282 main_v283 main_v284 (subf : (⟨S_, .f32⟩ : BufTy).Contents (Elt F) → (⟨S_, .f32⟩ : BufTy).Contents (Elt F) → (⟨S_, .f32⟩ : BufTy).Contents (Elt F)),
    StableHlo.unary main_v284 main_v285 (broadcastInDim S2048x1 ![] bcast_S_S2048x1 : (⟨S_, .f32⟩ : BufTy).Contents (Elt F) → (⟨S2048x1, .f32⟩ : BufTy).Contents (Elt F)),
    StableHlo.binary main_v281 main_v285 main_v286 (Host.divf : (⟨S2048x1, .f32⟩ : BufTy).Contents (Elt F) → (⟨S2048x1, .f32⟩ : BufTy).Contents (Elt F) → (⟨S2048x1, .f32⟩ : BufTy).Contents (Elt F)),
    StableHlo.nullary main_cst_55 (constant S_ .f32 0xFF800000#32),
    StableHlo.binary main_v278 main_cst_55 main_v287 ((fun x v => Host.reduce FloatOps.maximumf x v reducesTo_S2048x2048_S_d0_1 h_S_) : (⟨S2048x2048, .f32⟩ : BufTy).Contents (Elt F) → (⟨S_, .f32⟩ : BufTy).Contents (Elt F) → (⟨S_, .f32⟩ : BufTy).Contents (Elt F)),
    StableHlo.unary main_v287 main_v288 (broadcastInDim S2048x1 ![] bcast_S_S2048x1 : (⟨S_, .f32⟩ : BufTy).Contents (Elt F) → (⟨S2048x1, .f32⟩ : BufTy).Contents (Elt F)),
    StableHlo.binary main_v286 main_v288 main_v289 (mulf : (⟨S2048x1, .f32⟩ : BufTy).Contents (Elt F) → (⟨S2048x1, .f32⟩ : BufTy).Contents (Elt F) → (⟨S2048x1, .f32⟩ : BufTy).Contents (Elt F)),
    StableHlo.nullary main_cst_56 (constant S_ .f32 0x00000000#32),
    StableHlo.unary main_cst_56 main_v290 (broadcastInDim S2048x2048 ![] bcast_S_S2048x2048 : (⟨S_, .f32⟩ : BufTy).Contents (Elt F) → (⟨S2048x2048, .f32⟩ : BufTy).Contents (Elt F)),
    StableHlo.binary main_v267 main_v290 main_v291 (cmpf .ogt : (⟨S2048x2048, .f32⟩ : BufTy).Contents (Elt F) → (⟨S2048x2048, .f32⟩ : BufTy).Contents (Elt F) → (⟨S2048x2048, .i1⟩ : BufTy).Contents (Elt F)),
    StableHlo.unary main_v289 main_v292 (broadcastInDim S2048x2048 ![0, 1] bcast_S2048x1_S2048x2048_0_1 : (⟨S2048x1, .f32⟩ : BufTy).Contents (Elt F) → (⟨S2048x2048, .f32⟩ : BufTy).Contents (Elt F)),
    StableHlo.binary main_v278 main_v292 main_v293 (addf : (⟨S2048x2048, .f32⟩ : BufTy).Contents (Elt F) → (⟨S2048x2048, .f32⟩ : BufTy).Contents (Elt F) → (⟨S2048x2048, .f32⟩ : BufTy).Contents (Elt F)),
    StableHlo.nullary main_cst_57 (constant S_ .f32 0xD368D4A5#32),
    StableHlo.TRef.unary (StableHlo.TRef.of (T := ⟨S_, .f32⟩) main_cst_57) main_call5.v0 id,
    StableHlo.TRef.unary main_call5.v0 main_call5.v1 (broadcastInDim S2048x2048 ![] bcast_S_S2048x2048),
    StableHlo.TRef.ternary (StableHlo.TRef.of (T := ⟨S2048x2048, .i1⟩) main_v291) (StableHlo.TRef.of (T := ⟨S2048x2048, .f32⟩) main_v293) main_call5.v1 main_call5.v2 select,
    StableHlo.nullary main_cst_58 (constant S_ .f32 0xFF800000#32),
    StableHlo.binary main_v294 main_cst_58 main_v295 ((fun x v => Host.reduce FloatOps.maximumf x v reducesTo_S2048x2048_S2048_d1 h_S_) : (⟨S2048x2048, .f32⟩ : BufTy).Contents (Elt F) → (⟨S_, .f32⟩ : BufTy).Contents (Elt F) → (⟨S2048, .f32⟩ : BufTy).Contents (Elt F)),
    StableHlo.nullary main_cst_59 (constant S_ .f32 0xFF800000#32),
    StableHlo.unary main_cst_59 main_v296 (broadcastInDim S2048 ![] bcast_S_S2048 : (⟨S_, .f32⟩ : BufTy).Contents (Elt F) → (⟨S2048, .f32⟩ : BufTy).Contents (Elt F)),
    StableHlo.binary main_v296 main_v295 main_v297 (maximumf : (⟨S2048, .f32⟩ : BufTy).Contents (Elt F) → (⟨S2048, .f32⟩ : BufTy).Contents (Elt F) → (⟨S2048, .f32⟩ : BufTy).Contents (Elt F)) ]

set_option maxRecDepth 16384 in
set_option maxHeartbeats 4000000 in
/-- The window is that line: the called functions unfold at their calls and sequencing re-associates. -/
theorem main_part5_eq (c : Dev nD) : main_part5 (F := F) c = StableHlo.seq ops_part5 := rfl

set_option maxRecDepth 16384 in
set_option maxHeartbeats 4000000 in
/-- Every operation of the window is good; the result's index is compared by computation. -/
theorem ops_part5_good : (ops_part5 : List (HloOp τ sig (Elt F))).Forall (Good 12) :=
  ⟨binary_good (h := by decide) .., nullary_good (h := by decide) .., unary_good (h := by decide) .., unary_good (h := by decide) ..,
    ternary_good (h := by decide) .., nullary_good (h := by decide) .., binary_good (h := by decide) .., nullary_good (h := by decide) ..,
    unary_good (h := by decide) .., binary_good (h := by decide) .., unary_good (h := by decide) .., unary_good (h := by decide) ..,
    binary_good (h := by decide) .., unary_good (h := by decide) .., nullary_good (h := by decide) .., binary_good (h := by decide) ..,
    unary_good (h := by decide) .., unary_good (h := by decide) .., binary_good (h := by decide) .., unary_good (h := by decide) ..,
    binary_good (h := by decide) .., nullary_good (h := by decide) .., unary_good (h := by decide) .., binary_good (h := by decide) ..,
    nullary_good (h := by decide) .., unary_good (h := by decide) .., binary_good (h := by decide) .., nullary_good (h := by decide) ..,
    unary_good (h := by decide) .., unary_good (h := by decide) .., ternary_good (h := by decide) .., unary_good (h := by decide) ..,
    nullary_good (h := by decide) .., unary_good (h := by decide) .., binary_good (h := by decide) .., ternary_good (h := by decide) ..,
    unary_good (h := by decide) .., binary_good (h := by decide) .., binary_good (h := by decide) .., unary_good (h := by decide) ..,
    binary_good (h := by decide) .., unary_good (h := by decide) .., binary_good (h := by decide) .., unary_good (h := by decide) ..,
    unary_good (h := by decide) .., unary_good (h := by decide) .., binary_good (h := by decide) .., nullary_good (h := by decide) ..,
    nullary_good (h := by decide) .., unary_good (h := by decide) .., binary_good (h := by decide) .., unary_good (h := by decide) ..,
    unary_good (h := by decide) .., binary_good (h := by decide) .., ternary_good (h := by decide) .., nullary_good (h := by decide) ..,
    binary_good (h := by decide) .., unary_good (h := by decide) .., binary_good (h := by decide) .., nullary_good (h := by decide) ..,
    binary_good (h := by decide) .., nullary_good (h := by decide) .., binary_good (h := by decide) .., binary_good (h := by decide) ..,
    unary_good (h := by decide) .., binary_good (h := by decide) .., nullary_good (h := by decide) .., binary_good (h := by decide) ..,
    unary_good (h := by decide) .., binary_good (h := by decide) .., nullary_good (h := by decide) .., unary_good (h := by decide) ..,
    binary_good (h := by decide) .., unary_good (h := by decide) .., binary_good (h := by decide) .., nullary_good (h := by decide) ..,
    unary_good (h := by decide) .., unary_good (h := by decide) .., ternary_good (h := by decide) .., nullary_good (h := by decide) ..,
    binary_good (h := by decide) .., nullary_good (h := by decide) .., unary_good (h := by decide) .., binary_good (h := by decide) ..⟩

end Cert.ReferenceIdeal.Hand

end
-- ==== Proof.Ref.W06.lean ====
import proofs.«146970_j35948876268088_1_alg».proof.ReferenceIdeal.P02
import proofs.«146970_j35948876268088_1_alg».proof.Proof.Ref.Keep

noncomputable section

namespace Cert.ReferenceIdeal.Hand

open Cert.ReferenceIdeal Idealize.ShloMosaic Idealize.ShloMosaic.TcCoe Idealize.SL.Sem Idealize.ShloMosaic.StableHlo

variable {F : FTy → Type} [FloatOps F]

variable [Facts]
open Facts₀ Facts

set_option maxHeartbeats 4000000 in
/-- The operations of window 6, in order; a called function's operations stand in its call's place. -/
abbrev ops_part6 : List (HloOp τ sig (Elt F)) :=
  [ StableHlo.unary main_v297 main_v298 (broadcastInDim S2048x1 ![0] bcast_S2048_S2048x1_0 : (⟨S2048, .f32⟩ : BufTy).Contents (Elt F) → (⟨S2048x1, .f32⟩ : BufTy).Contents (Elt F)),
    StableHlo.unary main_v298 main_v299 (broadcastInDim S2048x2048 ![0, 1] bcast_S2048x1_S2048x2048_0_1 : (⟨S2048x1, .f32⟩ : BufTy).Contents (Elt F) → (⟨S2048x2048, .f32⟩ : BufTy).Contents (Elt F)),
    StableHlo.binary main_v294 main_v299 main_v300 (subf : (⟨S2048x2048, .f32⟩ : BufTy).Contents (Elt F) → (⟨S2048x2048, .f32⟩ : BufTy).Contents (Elt F) → (⟨S2048x2048, .f32⟩ : BufTy).Contents (Elt F)),
    StableHlo.unary main_v300 main_v301 (Host.exp : (⟨S2048x2048, .f32⟩ : BufTy).Contents (Elt F) → (⟨S2048x2048, .f32⟩ : BufTy).Contents (Elt F)),
    StableHlo.nullary main_cst_60 (constant S_ .f32 0x00000000#32),
    StableHlo.binary main_v301 main_cst_60 main_v302 ((fun x v => Host.reduceAdd x v reducesTo_S2048x2048_S2048_d1 h_S_) : (⟨S2048x2048, .f32⟩ : BufTy).Contents (Elt F) → (⟨S_, .f32⟩ : BufTy).Contents (Elt F) → (⟨S2048, .f32⟩ : BufTy).Contents (Elt F)),
    StableHlo.unary main_v302 main_v303 (broadcastInDim S2048x1 ![0] bcast_S2048_S2048x1_0 : (⟨S2048, .f32⟩ : BufTy).Contents (Elt F) → (⟨S2048x1, .f32⟩ : BufTy).Contents (Elt F)),
    StableHlo.unary main_v303 main_v304 (broadcastInDim S2048x2048 ![0, 1] bcast_S2048x1_S2048x2048_0_1 : (⟨S2048x1, .f32⟩ : BufTy).Contents (Elt F) → (⟨S2048x2048, .f32⟩ : BufTy).Contents (Elt F)),
    StableHlo.binary main_v301 main_v304 main_v305 (Host.divf : (⟨S2048x2048, .f32⟩ : BufTy).Contents (Elt F) → (⟨S2048x2048, .f32⟩ : BufTy).Contents (Elt F) → (⟨S2048x2048, .f32⟩ : BufTy).Contents (Elt F)),
    StableHlo.unary main_v305 main_v306 ((transpose S2048x2048 [1, 0] · transposes_S2048x2048_S2048x2048_1_0) : (⟨S2048x2048, .f32⟩ : BufTy).Contents (Elt F) → (⟨S2048x2048, .f32⟩ : BufTy).Contents (Elt F)),
    StableHlo.binary main_v306 main_v266 main_v307 ((fun l r => Host.dotGeneral dot_S2048x2048_S2048x8_S2048x8_1_0_0_1_n_n none l r) : (⟨S2048x2048, .f32⟩ : BufTy).Contents (Elt F) → (⟨S2048x8, .f32⟩ : BufTy).Contents (Elt F) → (⟨S2048x8, .f32⟩ : BufTy).Contents (Elt F)),
    StableHlo.TRef.nullary main_call6.cst (constant S_ .f32 0x00000000#32),
    StableHlo.TRef.unary main_call6.cst main_call6.v0 (broadcastInDim S2048x8 ![] bcast_S_S2048x8),
    StableHlo.TRef.binary (StableHlo.TRef.of (T := ⟨S2048x8, .f32⟩) main_v307) main_call6.v0 main_call6.v1 (cmpf .ogt),
    StableHlo.TRef.nullary main_call6.cst_0 (constant S_ .f32 0x00000000#32),
    StableHlo.TRef.unary main_call6.cst_0 main_call6.v2 (broadcastInDim S2048x8 ![] bcast_S_S2048x8),
    StableHlo.TRef.binary (StableHlo.TRef.of (T := ⟨S2048x8, .f32⟩) main_v307) main_call6.v2 main_call6.v3 (cmpf .ogt),
    StableHlo.TRef.nullary main_call6.cst_1 (constant S_ .f32 0x00000000#32),
    StableHlo.TRef.unary main_call6.cst_1 main_call6.call0.v0 id,
    StableHlo.TRef.unary main_call6.call0.v0 main_call6.call0.v1 (broadcastInDim S2048x8 ![] bcast_S_S2048x8),
    StableHlo.TRef.ternary main_call6.v3 main_call6.call0.v1 (StableHlo.TRef.of (T := ⟨S2048x8, .f32⟩) main_v307) main_call6.call0.v2 select,
    StableHlo.TRef.unary main_call6.call0.v2 main_call6.v5 Host.expm1,
    StableHlo.TRef.nullary main_call6.cst_2 (constant S_ .f32 0x3F800000#32),
    StableHlo.TRef.unary main_call6.cst_2 main_call6.v6 (broadcastInDim S2048x8 ![] bcast_S_S2048x8),
    StableHlo.TRef.binary main_call6.v6 main_call6.v5 main_call6.v7 mulf,
    StableHlo.TRef.ternary main_call6.v1 (StableHlo.TRef.of (T := ⟨S2048x8, .f32⟩) main_v307) main_call6.v7 main_call6.call1.v0 select,
    StableHlo.unary main_v184 main_v309 ((extractStridedSlice S16x1 ![0, 1] · slices_S16x8_S16x1_0_1) : (⟨S16x8, .f32⟩ : BufTy).Contents (Elt F) → (⟨S16x1, .f32⟩ : BufTy).Contents (Elt F)),
    StableHlo.unary main_v184 main_v310 ((extractStridedSlice S16x1 ![0, 5] · slices_S16x8_S16x1_0_5) : (⟨S16x8, .f32⟩ : BufTy).Contents (Elt F) → (⟨S16x1, .f32⟩ : BufTy).Contents (Elt F)),
    StableHlo.unary main_arg4 main_v311 ((extractStridedSlice S1x256x8 ![1, 0, 0] · slices_S4x256x8_S1x256x8_1_0_0) : (⟨S4x256x8, .f32⟩ : BufTy).Contents (Elt F) → (⟨S1x256x8, .f32⟩ : BufTy).Contents (Elt F)),
    StableHlo.reshape main_v311 main_v312 rfl shapeCasts_S1x256x8_S256x8,
    StableHlo.binary main_v48 main_v48 main_v313 (mulf : (⟨S2048x256, .f32⟩ : BufTy).Contents (Elt F) → (⟨S2048x256, .f32⟩ : BufTy).Contents (Elt F) → (⟨S2048x256, .f32⟩ : BufTy).Contents (Elt F)),
    StableHlo.nullary main_cst_61 (constant S_ .f32 0x00000000#32),
    StableHlo.binary main_v313 main_cst_61 main_v314 ((fun x v => Host.reduceAdd x v reducesTo_S2048x256_S2048_d1 h_S_) : (⟨S2048x256, .f32⟩ : BufTy).Contents (Elt F) → (⟨S_, .f32⟩ : BufTy).Contents (Elt F) → (⟨S2048, .f32⟩ : BufTy).Contents (Elt F)),
    StableHlo.unary main_v314 main_v315 (Host.sqrt : (⟨S2048, .f32⟩ : BufTy).Contents (Elt F) → (⟨S2048, .f32⟩ : BufTy).Contents (Elt F)),
    StableHlo.unary main_v48 main_v316 ((transpose S256x2048 [1, 0] · transposes_S2048x256_S256x2048_1_0) : (⟨S2048x256, .f32⟩ : BufTy).Contents (Elt F) → (⟨S256x2048, .f32⟩ : BufTy).Contents (Elt F)),
    StableHlo.binary main_v48 main_v316 main_v317 ((fun l r => Host.dotGeneral dot_S2048x256_S256x2048_S2048x2048_1_0_0_1_n_n none l r) : (⟨S2048x256, .f32⟩ : BufTy).Contents (Elt F) → (⟨S256x2048, .f32⟩ : BufTy).Contents (Elt F) → (⟨S2048x2048, .f32⟩ : BufTy).Contents (Elt F)),
    StableHlo.unary main_v315 main_v318 (broadcastInDim S2048x1 ![0] bcast_S2048_S2048x1_0 : (⟨S2048, .f32⟩ : BufTy).Contents (Elt F) → (⟨S2048x1, .f32⟩ : BufTy).Contents (Elt F)),
    StableHlo.unary main_v315 main_v319 (broadcastInDim S1x2048 ![1] bcast_S2048_S1x2048_1 : (⟨S2048, .f32⟩ : BufTy).Contents (Elt F) → (⟨S1x2048, .f32⟩ : BufTy).Contents (Elt F)),
    StableHlo.unary main_v318 main_v320 (broadcastInDim S2048x2048 ![0, 1] bcast_S2048x1_S2048x2048_0_1 : (⟨S2048x1, .f32⟩ : BufTy).Contents (Elt F) → (⟨S2048x2048, .f32⟩ : BufTy).Contents (Elt F)),
    StableHlo.unary main_v319 main_v321 (broadcastInDim S2048x2048 ![0, 1] bcast_S1x2048_S2048x2048_0_1 : (⟨S1x2048, .f32⟩ : BufTy).Contents (Elt F) → (⟨S2048x2048, .f32⟩ : BufTy).Contents (Elt F)),
    StableHlo.binary main_v320 main_v321 main_v322 (mulf : (⟨S2048x2048, .f32⟩ : BufTy).Contents (Elt F) → (⟨S2048x2048, .f32⟩ : BufTy).Contents (Elt F) → (⟨S2048x2048, .f32⟩ : BufTy).Contents (Elt F)),
    StableHlo.binary main_v317 main_v322 main_v323 (Host.divf : (⟨S2048x2048, .f32⟩ : BufTy).Contents (Elt F) → (⟨S2048x2048, .f32⟩ : BufTy).Contents (Elt F) → (⟨S2048x2048, .f32⟩ : BufTy).Contents (Elt F)),
    StableHlo.nullary main_v324 (iotaInDim S2048x2048 32 0),
    StableHlo.nullary main_v325 (iotaInDim S2048x2048 32 1),
    StableHlo.nullary main_c_62 (constantI S_ 32 0#32),
    StableHlo.unary main_c_62 main_v326 (broadcastInDim S2048x2048 ![] bcast_S_S2048x2048 : (⟨S_, .i32⟩ : BufTy).Contents (Elt F) → (⟨S2048x2048, .i32⟩ : BufTy).Contents (Elt F)),
    StableHlo.binary main_v324 main_v326 main_v327 (addi : (⟨S2048x2048, .i32⟩ : BufTy).Contents (Elt F) → (⟨S2048x2048, .i32⟩ : BufTy).Contents (Elt F) → (⟨S2048x2048, .i32⟩ : BufTy).Contents (Elt F)),
    StableHlo.binary main_v327 main_v325 main_v328 (cmpi .eq : (⟨S2048x2048, .i32⟩ : BufTy).Contents (Elt F) → (⟨S2048x2048, .i32⟩ : BufTy).Contents (Elt F) → (⟨S2048x2048, .i1⟩ : BufTy).Contents (Elt F)),
    StableHlo.unary main_v328 main_v329 (uitofp .f32 : (⟨S2048x2048, .i1⟩ : BufTy).Contents (Elt F) → (⟨S2048x2048, .f32⟩ : BufTy).Contents (Elt F)),
    StableHlo.nullary main_cst_63 (constant S_ .f32 0x3F800000#32),
    StableHlo.unary main_cst_63 main_v330 (broadcastInDim S2048x2048 ![] bcast_S_S2048x2048 : (⟨S_, .f32⟩ : BufTy).Contents (Elt F) → (⟨S2048x2048, .f32⟩ : BufTy).Contents (Elt F)),
    StableHlo.binary main_v330 main_v329 main_v331 (subf : (⟨S2048x2048, .f32⟩ : BufTy).Contents (Elt F) → (⟨S2048x2048, .f32⟩ : BufTy).Contents (Elt F) → (⟨S2048x2048, .f32⟩ : BufTy).Contents (Elt F)),
    StableHlo.nullary main_cst_64 (constant S_ .f32 0x3F000000#32),
    StableHlo.unary main_cst_64 main_v332 (broadcastInDim S2048x2048 ![] bcast_S_S2048x2048 : (⟨S_, .f32⟩ : BufTy).Contents (Elt F) → (⟨S2048x2048, .f32⟩ : BufTy).Contents (Elt F)),
    StableHlo.binary main_v323 main_v332 main_v333 (cmpf .ogt : (⟨S2048x2048, .f32⟩ : BufTy).Contents (Elt F) → (⟨S2048x2048, .f32⟩ : BufTy).Contents (Elt F) → (⟨S2048x2048, .i1⟩ : BufTy).Contents (Elt F)),
    StableHlo.nullary main_cst_65 (constant S_ .f32 0x00000000#32),
    StableHlo.TRef.unary (StableHlo.TRef.of (T := ⟨S_, .f32⟩) main_cst_65) main_call7.v0 id,
    StableHlo.TRef.unary main_call7.v0 main_call7.v1 (broadcastInDim S2048x2048 ![] bcast_S_S2048x2048),
    StableHlo.TRef.ternary (StableHlo.TRef.of (T := ⟨S2048x2048, .i1⟩) main_v333) (StableHlo.TRef.of (T := ⟨S2048x2048, .f32⟩) main_v323) main_call7.v1 main_call7.v2 select,
    StableHlo.binary main_v334 main_v331 main_v335 (mulf : (⟨S2048x2048, .f32⟩ : BufTy).Contents (Elt F) → (⟨S2048x2048, .f32⟩ : BufTy).Contents (Elt F) → (⟨S2048x2048, .f32⟩ : BufTy).Contents (Elt F)),
    StableHlo.unary main_v26 main_v336 ((transpose S2048x2048 [1, 0] · transposes_S2048x2048_S2048x2048_1_0) : (⟨S2048x2048, .f32⟩ : BufTy).Contents (Elt F) → (⟨S2048x2048, .f32⟩ : BufTy).Contents (Elt F)),
    StableHlo.binary main_v26 main_v336 main_v337 ((fun l r => Host.dotGeneral dot_S2048x2048_S2048x2048_S2048x2048_1_0_0_1_n_n none l r) : (⟨S2048x2048, .f32⟩ : BufTy).Contents (Elt F) → (⟨S2048x2048, .f32⟩ : BufTy).Contents (Elt F) → (⟨S2048x2048, .f32⟩ : BufTy).Contents (Elt F)),
    StableHlo.nullary main_cst_66 (constant S_ .f32 0x00000000#32),
    StableHlo.unary main_cst_66 main_v338 (broadcastInDim S2048x2048 ![] bcast_S_S2048x2048 : (⟨S_, .f32⟩ : BufTy).Contents (Elt F) → (⟨S2048x2048, .f32⟩ : BufTy).Contents (Elt F)),
    StableHlo.binary main_v337 main_v338 main_v339 (cmpf .ogt : (⟨S2048x2048, .f32⟩ : BufTy).Contents (Elt F) → (⟨S2048x2048, .f32⟩ : BufTy).Contents (Elt F) → (⟨S2048x2048, .i1⟩ : BufTy).Contents (Elt F)),
    StableHlo.unary main_v339 main_v340 (uitofp .f32 : (⟨S2048x2048, .i1⟩ : BufTy).Contents (Elt F) → (⟨S2048x2048, .f32⟩ : BufTy).Contents (Elt F)),
    StableHlo.binary main_v340 main_v331 main_v341 (mulf : (⟨S2048x2048, .f32⟩ : BufTy).Contents (Elt F) → (⟨S2048x2048, .f32⟩ : BufTy).Contents (Elt F) → (⟨S2048x2048, .f32⟩ : BufTy).Contents (Elt F)),
    StableHlo.binary main_v335 main_v341 main_v342 (mulf : (⟨S2048x2048, .f32⟩ : BufTy).Contents (Elt F) → (⟨S2048x2048, .f32⟩ : BufTy).Contents (Elt F) → (⟨S2048x2048, .f32⟩ : BufTy).Contents (Elt F)),
    StableHlo.nullary main_cst_67 (constant S_ .f32 0x00000000#32),
    StableHlo.binary main_v342 main_cst_67 main_v343 ((fun x v => Host.reduceAdd x v reducesTo_S2048x2048_S2048_d1 h_S_) : (⟨S2048x2048, .f32⟩ : BufTy).Contents (Elt F) → (⟨S_, .f32⟩ : BufTy).Contents (Elt F) → (⟨S2048, .f32⟩ : BufTy).Contents (Elt F)),
    StableHlo.unary main_v343 main_v344 (broadcastInDim S2048x1 ![0] bcast_S2048_S2048x1_0 : (⟨S2048, .f32⟩ : BufTy).Contents (Elt F) → (⟨S2048x1, .f32⟩ : BufTy).Contents (Elt F)),
    StableHlo.unary main_v344 main_v345 (broadcastInDim S2048x2048 ![0, 1] bcast_S2048x1_S2048x2048_0_1 : (⟨S2048x1, .f32⟩ : BufTy).Contents (Elt F) → (⟨S2048x2048, .f32⟩ : BufTy).Contents (Elt F)),
    StableHlo.binary main_v26 main_v345 main_v346 (mulf : (⟨S2048x2048, .f32⟩ : BufTy).Contents (Elt F) → (⟨S2048x2048, .f32⟩ : BufTy).Contents (Elt F) → (⟨S2048x2048, .f32⟩ : BufTy).Contents (Elt F)),
    StableHlo.nullary main_cst_68 (constant S_ .f32 0x00000000#32),
    StableHlo.binary main_v346 main_cst_68 main_v347 ((fun x v => Host.reduceAdd x v reducesTo_S2048x2048_S2048_d0 h_S_) : (⟨S2048x2048, .f32⟩ : BufTy).Contents (Elt F) → (⟨S_, .f32⟩ : BufTy).Contents (Elt F) → (⟨S2048, .f32⟩ : BufTy).Contents (Elt F)),
    StableHlo.unary main_v347 main_v348 (broadcastInDim S2048x1 ![0] bcast_S2048_S2048x1_0 : (⟨S2048, .f32⟩ : BufTy).Contents (Elt F) → (⟨S2048x1, .f32⟩ : BufTy).Contents (Elt F)) ]

set_option maxRecDepth 16384 in
set_option maxHeartbeats 4000000 in
/-- The window is that line: the called functions unfold at their calls and sequencing re-associates. -/
theorem main_part6_eq (c : Dev nD) : main_part6 (F := F) c = StableHlo.seq ops_part6 := rfl

set_option maxRecDepth 16384 in
set_option maxHeartbeats 4000000 in
/-- Every operation of the window is good; the result's index is compared by computation. -/
theorem ops_part6_good : (ops_part6 : List (HloOp τ sig (Elt F))).Forall (Good 12) :=
  ⟨unary_good (h := by decide) .., unary_good (h := by decide) .., binary_good (h := by decide) .., unary_good (h := by decide) ..,
    nullary_good (h := by decide) .., binary_good (h := by decide) .., unary_good (h := by decide) .., unary_good (h := by decide) ..,
    binary_good (h := by decide) .., unary_good (h := by decide) .., binary_good (h := by decide) .., nullary_good (h := by decide) ..,
    unary_good (h := by decide) .., binary_good (h := by decide) .., nullary_good (h := by decide) .., unary_good (h := by decide) ..,
    binary_good (h := by decide) .., nullary_good (h := by decide) .., unary_good (h := by decide) .., unary_good (h := by decide) ..,
    ternary_good (h := by decide) .., unary_good (h := by decide) .., nullary_good (h := by decide) .., unary_good (h := by decide) ..,
    binary_good (h := by decide) .., ternary_good (h := by decide) .., unary_good (h := by decide) .., unary_good (h := by decide) ..,
    unary_good (h := by decide) .., reshape_good (h := by decide) .., binary_good (h := by decide) .., nullary_good (h := by decide) ..,
    binary_good (h := by decide) .., unary_good (h := by decide) .., unary_good (h := by decide) .., binary_good (h := by decide) ..,
    unary_good (h := by decide) .., unary_good (h := by decide) .., unary_good (h := by decide) .., unary_good (h := by decide) ..,
    binary_good (h := by decide) .., binary_good (h := by decide) .., nullary_good (h := by decide) .., nullary_good (h := by decide) ..,
    nullary_good (h := by decide) .., unary_good (h := by decide) .., binary_good (h := by decide) .., binary_good (h := by decide) ..,
    unary_good (h := by decide) .., nullary_good (h := by decide) .., unary_good (h := by decide) .., binary_good (h := by decide) ..,
    nullary_good (h := by decide) .., unary_good (h := by decide) .., binary_good (h := by decide) .., nullary_good (h := by decide) ..,
    unary_good (h := by decide) .., unary_good (h := by decide) .., ternary_good (h := by decide) .., binary_good (h := by decide) ..,
    unary_good (h := by decide) .., binary_good (h := by decide) .., nullary_good (h := by decide) .., unary_good (h := by decide) ..,
    binary_good (h := by decide) .., unary_good (h := by decide) .., binary_good (h := by decide) .., binary_good (h := by decide) ..,
    nullary_good (h := by decide) .., binary_good (h := by decide) .., unary_good (h := by decide) .., unary_good (h := by decide) ..,
    binary_good (h := by decide) .., nullary_good (h := by decide) .., binary_good (h := by decide) .., unary_good (h := by decide) ..⟩

end Cert.ReferenceIdeal.Hand

end
-- ==== Proof.Ref.W07.lean ====
import proofs.«146970_j35948876268088_1_alg».proof.ReferenceIdeal.P02
import proofs.«146970_j35948876268088_1_alg».proof.Proof.Ref.Keep

noncomputable section

namespace Cert.ReferenceIdeal.Hand

open Cert.ReferenceIdeal Idealize.ShloMosaic Idealize.ShloMosaic.TcCoe Idealize.SL.Sem Idealize.ShloMosaic.StableHlo

variable {F : FTy → Type} [FloatOps F]

variable [Facts]
open Facts₀ Facts

set_option maxHeartbeats 4000000 in
/-- The operations of window 7, in order; a called function's operations stand in its call's place. -/
abbrev ops_part7 : List (HloOp τ sig (Elt F)) :=
  [ StableHlo.binary main_v48 main_v312 main_v349 ((fun l r => Host.dotGeneral dot_S2048x256_S256x8_S2048x8_1_0_0_1_n_n none l r) : (⟨S2048x256, .f32⟩ : BufTy).Contents (Elt F) → (⟨S256x8, .f32⟩ : BufTy).Contents (Elt F) → (⟨S2048x8, .f32⟩ : BufTy).Contents (Elt F)),
    StableHlo.binary main_v48 main_v312 main_v350 ((fun l r => Host.dotGeneral dot_S2048x256_S256x8_S2048x8_1_0_0_1_n_n none l r) : (⟨S2048x256, .f32⟩ : BufTy).Contents (Elt F) → (⟨S256x8, .f32⟩ : BufTy).Contents (Elt F) → (⟨S2048x8, .f32⟩ : BufTy).Contents (Elt F)),
    StableHlo.binary main_v41 main_v312 main_v351 ((fun l r => Host.dotGeneral dot_S2048x256_S256x8_S2048x8_1_0_0_1_n_n none l r) : (⟨S2048x256, .f32⟩ : BufTy).Contents (Elt F) → (⟨S256x8, .f32⟩ : BufTy).Contents (Elt F) → (⟨S2048x8, .f32⟩ : BufTy).Contents (Elt F)),
    StableHlo.unary main_v309 main_v352 ((extractStridedSlice S8x1 ![0, 0] · slices_S16x1_S8x1_0_0) : (⟨S16x1, .f32⟩ : BufTy).Contents (Elt F) → (⟨S8x1, .f32⟩ : BufTy).Contents (Elt F)),
    StableHlo.binary main_v350 main_v352 main_v353 ((fun l r => Host.dotGeneral dot_S2048x8_S8x1_S2048x1_1_0_0_1_n_n none l r) : (⟨S2048x8, .f32⟩ : BufTy).Contents (Elt F) → (⟨S8x1, .f32⟩ : BufTy).Contents (Elt F) → (⟨S2048x1, .f32⟩ : BufTy).Contents (Elt F)),
    StableHlo.unary main_v309 main_v354 ((extractStridedSlice S8x1 ![8, 0] · slices_S16x1_S8x1_8_0) : (⟨S16x1, .f32⟩ : BufTy).Contents (Elt F) → (⟨S8x1, .f32⟩ : BufTy).Contents (Elt F)),
    StableHlo.binary main_v351 main_v354 main_v355 ((fun l r => Host.dotGeneral dot_S2048x8_S8x1_S2048x1_1_0_0_1_n_n none l r) : (⟨S2048x8, .f32⟩ : BufTy).Contents (Elt F) → (⟨S8x1, .f32⟩ : BufTy).Contents (Elt F) → (⟨S2048x1, .f32⟩ : BufTy).Contents (Elt F)),
    StableHlo.unary main_v355 main_v356 ((transpose S1x2048 [1, 0] · transposes_S2048x1_S1x2048_1_0) : (⟨S2048x1, .f32⟩ : BufTy).Contents (Elt F) → (⟨S1x2048, .f32⟩ : BufTy).Contents (Elt F)),
    StableHlo.unary main_v353 main_v357 (broadcastInDim S2048x2048 ![0, 1] bcast_S2048x1_S2048x2048_0_1 : (⟨S2048x1, .f32⟩ : BufTy).Contents (Elt F) → (⟨S2048x2048, .f32⟩ : BufTy).Contents (Elt F)),
    StableHlo.unary main_v356 main_v358 (broadcastInDim S2048x2048 ![0, 1] bcast_S1x2048_S2048x2048_0_1 : (⟨S1x2048, .f32⟩ : BufTy).Contents (Elt F) → (⟨S2048x2048, .f32⟩ : BufTy).Contents (Elt F)),
    StableHlo.binary main_v357 main_v358 main_v359 (addf : (⟨S2048x2048, .f32⟩ : BufTy).Contents (Elt F) → (⟨S2048x2048, .f32⟩ : BufTy).Contents (Elt F) → (⟨S2048x2048, .f32⟩ : BufTy).Contents (Elt F)),
    StableHlo.nullary main_cst_69 (constant S_ .f32 0x3E4CCCCD#32),
    StableHlo.TRef.nullary main_call8.cst (constant S_ .f32 0x00000000#32),
    StableHlo.TRef.unary main_call8.cst main_call8.v0 (broadcastInDim S2048x2048 ![] bcast_S_S2048x2048),
    StableHlo.TRef.binary (StableHlo.TRef.of (T := ⟨S2048x2048, .f32⟩) main_v359) main_call8.v0 main_call8.v1 (cmpf .oge),
    StableHlo.TRef.unary (StableHlo.TRef.of (T := ⟨S_, .f32⟩) main_cst_69) main_call8.v2 id,
    StableHlo.TRef.unary main_call8.v2 main_call8.v3 (broadcastInDim S2048x2048 ![] bcast_S_S2048x2048),
    StableHlo.TRef.binary main_call8.v3 (StableHlo.TRef.of (T := ⟨S2048x2048, .f32⟩) main_v359) main_call8.v4 mulf,
    StableHlo.TRef.ternary main_call8.v1 (StableHlo.TRef.of (T := ⟨S2048x2048, .f32⟩) main_v359) main_call8.v4 main_call8.call0.v0 select,
    StableHlo.nullary main_cst_70 (constant S_ .f32 0x7F800000#32),
    StableHlo.binary main_v344 main_cst_70 main_v361 ((fun x v => Host.reduce FloatOps.minimumf x v reducesTo_S2048x1_S_d0_1 h_S_) : (⟨S2048x1, .f32⟩ : BufTy).Contents (Elt F) → (⟨S_, .f32⟩ : BufTy).Contents (Elt F) → (⟨S_, .f32⟩ : BufTy).Contents (Elt F)),
    StableHlo.unary main_v361 main_v362 (broadcastInDim S2048x1 ![] bcast_S_S2048x1 : (⟨S_, .f32⟩ : BufTy).Contents (Elt F) → (⟨S2048x1, .f32⟩ : BufTy).Contents (Elt F)),
    StableHlo.binary main_v344 main_v362 main_v363 (subf : (⟨S2048x1, .f32⟩ : BufTy).Contents (Elt F) → (⟨S2048x1, .f32⟩ : BufTy).Contents (Elt F) → (⟨S2048x1, .f32⟩ : BufTy).Contents (Elt F)),
    StableHlo.nullary main_cst_71 (constant S_ .f32 0xFF800000#32),
    StableHlo.binary main_v344 main_cst_71 main_v364 ((fun x v => Host.reduce FloatOps.maximumf x v reducesTo_S2048x1_S_d0_1 h_S_) : (⟨S2048x1, .f32⟩ : BufTy).Contents (Elt F) → (⟨S_, .f32⟩ : BufTy).Contents (Elt F) → (⟨S_, .f32⟩ : BufTy).Contents (Elt F)),
    StableHlo.nullary main_cst_72 (constant S_ .f32 0x7F800000#32),
    StableHlo.binary main_v344 main_cst_72 main_v365 ((fun x v => Host.reduce FloatOps.minimumf x v reducesTo_S2048x1_S_d0_1 h_S_) : (⟨S2048x1, .f32⟩ : BufTy).Contents (Elt F) → (⟨S_, .f32⟩ : BufTy).Contents (Elt F) → (⟨S_, .f32⟩ : BufTy).Contents (Elt F)),
    StableHlo.binary main_v364 main_v365 main_v366 (subf : (⟨S_, .f32⟩ : BufTy).Contents (Elt F) → (⟨S_, .f32⟩ : BufTy).Contents (Elt F) → (⟨S_, .f32⟩ : BufTy).Contents (Elt F)),
    StableHlo.unary main_v366 main_v367 (broadcastInDim S2048x1 ![] bcast_S_S2048x1 : (⟨S_, .f32⟩ : BufTy).Contents (Elt F) → (⟨S2048x1, .f32⟩ : BufTy).Contents (Elt F)),
    StableHlo.binary main_v363 main_v367 main_v368 (Host.divf : (⟨S2048x1, .f32⟩ : BufTy).Contents (Elt F) → (⟨S2048x1, .f32⟩ : BufTy).Contents (Elt F) → (⟨S2048x1, .f32⟩ : BufTy).Contents (Elt F)),
    StableHlo.nullary main_cst_73 (constant S_ .f32 0xFF800000#32),
    StableHlo.binary main_v360 main_cst_73 main_v369 ((fun x v => Host.reduce FloatOps.maximumf x v reducesTo_S2048x2048_S_d0_1 h_S_) : (⟨S2048x2048, .f32⟩ : BufTy).Contents (Elt F) → (⟨S_, .f32⟩ : BufTy).Contents (Elt F) → (⟨S_, .f32⟩ : BufTy).Contents (Elt F)),
    StableHlo.unary main_v369 main_v370 (broadcastInDim S2048x1 ![] bcast_S_S2048x1 : (⟨S_, .f32⟩ : BufTy).Contents (Elt F) → (⟨S2048x1, .f32⟩ : BufTy).Contents (Elt F)),
    StableHlo.binary main_v368 main_v370 main_v371 (mulf : (⟨S2048x1, .f32⟩ : BufTy).Contents (Elt F) → (⟨S2048x1, .f32⟩ : BufTy).Contents (Elt F) → (⟨S2048x1, .f32⟩ : BufTy).Contents (Elt F)),
    StableHlo.nullary main_cst_74 (constant S_ .f32 0x00000000#32),
    StableHlo.unary main_cst_74 main_v372 (broadcastInDim S2048x2048 ![] bcast_S_S2048x2048 : (⟨S_, .f32⟩ : BufTy).Contents (Elt F) → (⟨S2048x2048, .f32⟩ : BufTy).Contents (Elt F)),
    StableHlo.binary main_v26 main_v372 main_v373 (cmpf .ogt : (⟨S2048x2048, .f32⟩ : BufTy).Contents (Elt F) → (⟨S2048x2048, .f32⟩ : BufTy).Contents (Elt F) → (⟨S2048x2048, .i1⟩ : BufTy).Contents (Elt F)),
    StableHlo.unary main_v371 main_v374 (broadcastInDim S2048x2048 ![0, 1] bcast_S2048x1_S2048x2048_0_1 : (⟨S2048x1, .f32⟩ : BufTy).Contents (Elt F) → (⟨S2048x2048, .f32⟩ : BufTy).Contents (Elt F)),
    StableHlo.binary main_v360 main_v374 main_v375 (addf : (⟨S2048x2048, .f32⟩ : BufTy).Contents (Elt F) → (⟨S2048x2048, .f32⟩ : BufTy).Contents (Elt F) → (⟨S2048x2048, .f32⟩ : BufTy).Contents (Elt F)),
    StableHlo.nullary main_cst_75 (constant S_ .f32 0xD368D4A5#32),
    StableHlo.TRef.unary (StableHlo.TRef.of (T := ⟨S_, .f32⟩) main_cst_75) main_call9.v0 id,
    StableHlo.TRef.unary main_call9.v0 main_call9.v1 (broadcastInDim S2048x2048 ![] bcast_S_S2048x2048),
    StableHlo.TRef.ternary (StableHlo.TRef.of (T := ⟨S2048x2048, .i1⟩) main_v373) (StableHlo.TRef.of (T := ⟨S2048x2048, .f32⟩) main_v375) main_call9.v1 main_call9.v2 select,
    StableHlo.nullary main_cst_76 (constant S_ .f32 0xFF800000#32),
    StableHlo.binary main_v376 main_cst_76 main_v377 ((fun x v => Host.reduce FloatOps.maximumf x v reducesTo_S2048x2048_S2048_d1 h_S_) : (⟨S2048x2048, .f32⟩ : BufTy).Contents (Elt F) → (⟨S_, .f32⟩ : BufTy).Contents (Elt F) → (⟨S2048, .f32⟩ : BufTy).Contents (Elt F)),
    StableHlo.nullary main_cst_77 (constant S_ .f32 0xFF800000#32),
    StableHlo.unary main_cst_77 main_v378 (broadcastInDim S2048 ![] bcast_S_S2048 : (⟨S_, .f32⟩ : BufTy).Contents (Elt F) → (⟨S2048, .f32⟩ : BufTy).Contents (Elt F)),
    StableHlo.binary main_v378 main_v377 main_v379 (maximumf : (⟨S2048, .f32⟩ : BufTy).Contents (Elt F) → (⟨S2048, .f32⟩ : BufTy).Contents (Elt F) → (⟨S2048, .f32⟩ : BufTy).Contents (Elt F)),
    StableHlo.unary main_v379 main_v380 (broadcastInDim S2048x1 ![0] bcast_S2048_S2048x1_0 : (⟨S2048, .f32⟩ : BufTy).Contents (Elt F) → (⟨S2048x1, .f32⟩ : BufTy).Contents (Elt F)),
    StableHlo.unary main_v380 main_v381 (broadcastInDim S2048x2048 ![0, 1] bcast_S2048x1_S2048x2048_0_1 : (⟨S2048x1, .f32⟩ : BufTy).Contents (Elt F) → (⟨S2048x2048, .f32⟩ : BufTy).Contents (Elt F)),
    StableHlo.binary main_v376 main_v381 main_v382 (subf : (⟨S2048x2048, .f32⟩ : BufTy).Contents (Elt F) → (⟨S2048x2048, .f32⟩ : BufTy).Contents (Elt F) → (⟨S2048x2048, .f32⟩ : BufTy).Contents (Elt F)),
    StableHlo.unary main_v382 main_v383 (Host.exp : (⟨S2048x2048, .f32⟩ : BufTy).Contents (Elt F) → (⟨S2048x2048, .f32⟩ : BufTy).Contents (Elt F)),
    StableHlo.nullary main_cst_78 (constant S_ .f32 0x00000000#32),
    StableHlo.binary main_v383 main_cst_78 main_v384 ((fun x v => Host.reduceAdd x v reducesTo_S2048x2048_S2048_d1 h_S_) : (⟨S2048x2048, .f32⟩ : BufTy).Contents (Elt F) → (⟨S_, .f32⟩ : BufTy).Contents (Elt F) → (⟨S2048, .f32⟩ : BufTy).Contents (Elt F)),
    StableHlo.unary main_v384 main_v385 (broadcastInDim S2048x1 ![0] bcast_S2048_S2048x1_0 : (⟨S2048, .f32⟩ : BufTy).Contents (Elt F) → (⟨S2048x1, .f32⟩ : BufTy).Contents (Elt F)),
    StableHlo.unary main_v385 main_v386 (broadcastInDim S2048x2048 ![0, 1] bcast_S2048x1_S2048x2048_0_1 : (⟨S2048x1, .f32⟩ : BufTy).Contents (Elt F) → (⟨S2048x2048, .f32⟩ : BufTy).Contents (Elt F)),
    StableHlo.binary main_v383 main_v386 main_v387 (Host.divf : (⟨S2048x2048, .f32⟩ : BufTy).Contents (Elt F) → (⟨S2048x2048, .f32⟩ : BufTy).Contents (Elt F) → (⟨S2048x2048, .f32⟩ : BufTy).Contents (Elt F)),
    StableHlo.unary main_v387 main_v388 ((transpose S2048x2048 [1, 0] · transposes_S2048x2048_S2048x2048_1_0) : (⟨S2048x2048, .f32⟩ : BufTy).Contents (Elt F) → (⟨S2048x2048, .f32⟩ : BufTy).Contents (Elt F)),
    StableHlo.binary main_v388 main_v349 main_v389 ((fun l r => Host.dotGeneral dot_S2048x2048_S2048x8_S2048x8_1_0_0_1_n_n none l r) : (⟨S2048x2048, .f32⟩ : BufTy).Contents (Elt F) → (⟨S2048x8, .f32⟩ : BufTy).Contents (Elt F) → (⟨S2048x8, .f32⟩ : BufTy).Contents (Elt F)),
    StableHlo.TRef.nullary main_call10.cst (constant S_ .f32 0x00000000#32),
    StableHlo.TRef.unary main_call10.cst main_call10.v0 (broadcastInDim S2048x8 ![] bcast_S_S2048x8),
    StableHlo.TRef.binary (StableHlo.TRef.of (T := ⟨S2048x8, .f32⟩) main_v389) main_call10.v0 main_call10.v1 (cmpf .ogt),
    StableHlo.TRef.nullary main_call10.cst_0 (constant S_ .f32 0x00000000#32),
    StableHlo.TRef.unary main_call10.cst_0 main_call10.v2 (broadcastInDim S2048x8 ![] bcast_S_S2048x8),
    StableHlo.TRef.binary (StableHlo.TRef.of (T := ⟨S2048x8, .f32⟩) main_v389) main_call10.v2 main_call10.v3 (cmpf .ogt),
    StableHlo.TRef.nullary main_call10.cst_1 (constant S_ .f32 0x00000000#32),
    StableHlo.TRef.unary main_call10.cst_1 main_call10.call0.v0 id,
    StableHlo.TRef.unary main_call10.call0.v0 main_call10.call0.v1 (broadcastInDim S2048x8 ![] bcast_S_S2048x8),
    StableHlo.TRef.ternary main_call10.v3 main_call10.call0.v1 (StableHlo.TRef.of (T := ⟨S2048x8, .f32⟩) main_v389) main_call10.call0.v2 select,
    StableHlo.TRef.unary main_call10.call0.v2 main_call10.v5 Host.expm1,
    StableHlo.TRef.nullary main_call10.cst_2 (constant S_ .f32 0x3F800000#32),
    StableHlo.TRef.unary main_call10.cst_2 main_call10.v6 (broadcastInDim S2048x8 ![] bcast_S_S2048x8),
    StableHlo.TRef.binary main_call10.v6 main_call10.v5 main_call10.v7 mulf,
    StableHlo.TRef.ternary main_call10.v1 (StableHlo.TRef.of (T := ⟨S2048x8, .f32⟩) main_v389) main_call10.v7 main_call10.call1.v0 select,
    StableHlo.unary main_v26 main_v391 ((transpose S2048x2048 [1, 0] · transposes_S2048x2048_S2048x2048_1_0) : (⟨S2048x2048, .f32⟩ : BufTy).Contents (Elt F) → (⟨S2048x2048, .f32⟩ : BufTy).Contents (Elt F)),
    StableHlo.binary main_v41 main_v312 main_v392 ((fun l r => Host.dotGeneral dot_S2048x256_S256x8_S2048x8_1_0_0_1_n_n none l r) : (⟨S2048x256, .f32⟩ : BufTy).Contents (Elt F) → (⟨S256x8, .f32⟩ : BufTy).Contents (Elt F) → (⟨S2048x8, .f32⟩ : BufTy).Contents (Elt F)),
    StableHlo.binary main_v48 main_v312 main_v393 ((fun l r => Host.dotGeneral dot_S2048x256_S256x8_S2048x8_1_0_0_1_n_n none l r) : (⟨S2048x256, .f32⟩ : BufTy).Contents (Elt F) → (⟨S256x8, .f32⟩ : BufTy).Contents (Elt F) → (⟨S2048x8, .f32⟩ : BufTy).Contents (Elt F)),
    StableHlo.unary main_v310 main_v394 ((extractStridedSlice S8x1 ![0, 0] · slices_S16x1_S8x1_0_0) : (⟨S16x1, .f32⟩ : BufTy).Contents (Elt F) → (⟨S8x1, .f32⟩ : BufTy).Contents (Elt F)),
    StableHlo.binary main_v392 main_v394 main_v395 ((fun l r => Host.dotGeneral dot_S2048x8_S8x1_S2048x1_1_0_0_1_n_n none l r) : (⟨S2048x8, .f32⟩ : BufTy).Contents (Elt F) → (⟨S8x1, .f32⟩ : BufTy).Contents (Elt F) → (⟨S2048x1, .f32⟩ : BufTy).Contents (Elt F)),
    StableHlo.unary main_v310 main_v396 ((extractStridedSlice S8x1 ![8, 0] · slices_S16x1_S8x1_8_0) : (⟨S16x1, .f32⟩ : BufTy).Contents (Elt F) → (⟨S8x1, .f32⟩ : BufTy).Contents (Elt F)),
    StableHlo.binary main_v393 main_v396 main_v397 ((fun l r => Host.dotGeneral dot_S2048x8_S8x1_S2048x1_1_0_0_1_n_n none l r) : (⟨S2048x8, .f32⟩ : BufTy).Contents (Elt F) → (⟨S8x1, .f32⟩ : BufTy).Contents (Elt F) → (⟨S2048x1, .f32⟩ : BufTy).Contents (Elt F)),
    StableHlo.unary main_v397 main_v398 ((transpose S1x2048 [1, 0] · transposes_S2048x1_S1x2048_1_0) : (⟨S2048x1, .f32⟩ : BufTy).Contents (Elt F) → (⟨S1x2048, .f32⟩ : BufTy).Contents (Elt F)) ]

set_option maxRecDepth 16384 in
set_option maxHeartbeats 4000000 in
/-- The window is that line: the called functions unfold at their calls and sequencing re-associates. -/
theorem main_part7_eq (c : Dev nD) : main_part7 (F := F) c = StableHlo.seq ops_part7 := rfl

set_option maxRecDepth 16384 in
set_option maxHeartbeats 4000000 in
/-- Every operation of the window is good; the result's index is compared by computation. -/
theorem ops_part7_good : (ops_part7 : List (HloOp τ sig (Elt F))).Forall (Good 12) :=
  ⟨binary_good (h := by decide) .., binary_good (h := by decide) .., binary_good (h := by decide) .., unary_good (h := by decide) ..,
    binary_good (h := by decide) .., unary_good (h := by decide) .., binary_good (h := by decide) .., unary_good (h := by decide) ..,
    unary_good (h := by decide) .., unary_good (h := by decide) .., binary_good (h := by decide) .., nullary_good (h := by decide) ..,
    nullary_good (h := by decide) .., unary_good (h := by decide) .., binary_good (h := by decide) .., unary_good (h := by decide) ..,
    unary_good (h := by decide) .., binary_good (h := by decide) .., ternary_good (h := by decide) .., nullary_good (h := by decide) ..,
    binary_good (h := by decide) .., unary_good (h := by decide) .., binary_good (h := by decide) .., nullary_good (h := by decide) ..,
    binary_good (h := by decide) .., nullary_good (h := by decide) .., binary_good (h := by decide) .., binary_good (h := by decide) ..,
    unary_good (h := by decide) .., binary_good (h := by decide) .., nullary_good (h := by decide) .., binary_good (h := by decide) ..,
    unary_good (h := by decide) .., binary_good (h := by decide) .., nullary_good (h := by decide) .., unary_good (h := by decide) ..,
    binary_good (h := by decide) .., unary_good (h := by decide) .., binary_good (h := by decide) .., nullary_good (h := by decide) ..,
    unary_good (h := by decide) .., unary_good (h := by decide) .., ternary_good (h := by decide) .., nullary_good (h := by decide) ..,
    binary_good (h := by decide) .., nullary_good (h := by decide) .., unary_good (h := by decide) .., binary_good (h := by decide) ..,
    unary_good (h := by decide) .., unary_good (h := by decide) .., binary_good (h := by decide) .., unary_good (h := by decide) ..,
    nullary_good (h := by decide) .., binary_good (h := by decide) .., unary_good (h := by decide) .., unary_good (h := by decide) ..,
    binary_good (h := by decide) .., unary_good (h := by decide) .., binary_good (h := by decide) .., nullary_good (h := by decide) ..,
    unary_good (h := by decide) .., binary_good (h := by decide) .., nullary_good (h := by decide) .., unary_good (h := by decide) ..,
    binary_good (h := by decide) .., nullary_good (h := by decide) .., unary_good (h := by decide) .., unary_good (h := by decide) ..,
    ternary_good (h := by decide) .., unary_good (h := by decide) .., nullary_good (h := by decide) .., unary_good (h := by decide) ..,
    binary_good (h := by decide) .., ternary_good (h := by decide) .., unary_good (h := by decide) .., binary_good (h := by decide) ..,
    binary_good (h := by decide) .., unary_good (h := by decide) .., binary_good (h := by decide) .., unary_good (h := by decide) ..,
    binary_good (h := by decide) .., unary_good (h := by decide) ..⟩

end Cert.ReferenceIdeal.Hand

end
-- ==== Proof.Ref.W08.lean ====
import proofs.«146970_j35948876268088_1_alg».proof.ReferenceIdeal.P02
import proofs.«146970_j35948876268088_1_alg».proof.Proof.Ref.Keep

noncomputable section

namespace Cert.ReferenceIdeal.Hand

open Cert.ReferenceIdeal Idealize.ShloMosaic Idealize.ShloMosaic.TcCoe Idealize.SL.Sem Idealize.ShloMosaic.StableHlo

variable {F : FTy → Type} [FloatOps F]

variable [Facts]
open Facts₀ Facts

set_option maxHeartbeats 4000000 in
/-- The operations of window 8, in order; a called function's operations stand in its call's place. -/
abbrev ops_part8 : List (HloOp τ sig (Elt F)) :=
  [ StableHlo.unary main_v395 main_v399 (broadcastInDim S2048x2048 ![0, 1] bcast_S2048x1_S2048x2048_0_1 : (⟨S2048x1, .f32⟩ : BufTy).Contents (Elt F) → (⟨S2048x2048, .f32⟩ : BufTy).Contents (Elt F)),
    StableHlo.unary main_v398 main_v400 (broadcastInDim S2048x2048 ![0, 1] bcast_S1x2048_S2048x2048_0_1 : (⟨S1x2048, .f32⟩ : BufTy).Contents (Elt F) → (⟨S2048x2048, .f32⟩ : BufTy).Contents (Elt F)),
    StableHlo.binary main_v399 main_v400 main_v401 (addf : (⟨S2048x2048, .f32⟩ : BufTy).Contents (Elt F) → (⟨S2048x2048, .f32⟩ : BufTy).Contents (Elt F) → (⟨S2048x2048, .f32⟩ : BufTy).Contents (Elt F)),
    StableHlo.nullary main_cst_79 (constant S_ .f32 0x3E4CCCCD#32),
    StableHlo.TRef.nullary main_call11.cst (constant S_ .f32 0x00000000#32),
    StableHlo.TRef.unary main_call11.cst main_call11.v0 (broadcastInDim S2048x2048 ![] bcast_S_S2048x2048),
    StableHlo.TRef.binary (StableHlo.TRef.of (T := ⟨S2048x2048, .f32⟩) main_v401) main_call11.v0 main_call11.v1 (cmpf .oge),
    StableHlo.TRef.unary (StableHlo.TRef.of (T := ⟨S_, .f32⟩) main_cst_79) main_call11.v2 id,
    StableHlo.TRef.unary main_call11.v2 main_call11.v3 (broadcastInDim S2048x2048 ![] bcast_S_S2048x2048),
    StableHlo.TRef.binary main_call11.v3 (StableHlo.TRef.of (T := ⟨S2048x2048, .f32⟩) main_v401) main_call11.v4 mulf,
    StableHlo.TRef.ternary main_call11.v1 (StableHlo.TRef.of (T := ⟨S2048x2048, .f32⟩) main_v401) main_call11.v4 main_call11.call0.v0 select,
    StableHlo.nullary main_cst_80 (constant S_ .f32 0x7F800000#32),
    StableHlo.binary main_v348 main_cst_80 main_v403 ((fun x v => Host.reduce FloatOps.minimumf x v reducesTo_S2048x1_S_d0_1 h_S_) : (⟨S2048x1, .f32⟩ : BufTy).Contents (Elt F) → (⟨S_, .f32⟩ : BufTy).Contents (Elt F) → (⟨S_, .f32⟩ : BufTy).Contents (Elt F)),
    StableHlo.unary main_v403 main_v404 (broadcastInDim S2048x1 ![] bcast_S_S2048x1 : (⟨S_, .f32⟩ : BufTy).Contents (Elt F) → (⟨S2048x1, .f32⟩ : BufTy).Contents (Elt F)),
    StableHlo.binary main_v348 main_v404 main_v405 (subf : (⟨S2048x1, .f32⟩ : BufTy).Contents (Elt F) → (⟨S2048x1, .f32⟩ : BufTy).Contents (Elt F) → (⟨S2048x1, .f32⟩ : BufTy).Contents (Elt F)),
    StableHlo.nullary main_cst_81 (constant S_ .f32 0xFF800000#32),
    StableHlo.binary main_v348 main_cst_81 main_v406 ((fun x v => Host.reduce FloatOps.maximumf x v reducesTo_S2048x1_S_d0_1 h_S_) : (⟨S2048x1, .f32⟩ : BufTy).Contents (Elt F) → (⟨S_, .f32⟩ : BufTy).Contents (Elt F) → (⟨S_, .f32⟩ : BufTy).Contents (Elt F)),
    StableHlo.nullary main_cst_82 (constant S_ .f32 0x7F800000#32),
    StableHlo.binary main_v348 main_cst_82 main_v407 ((fun x v => Host.reduce FloatOps.minimumf x v reducesTo_S2048x1_S_d0_1 h_S_) : (⟨S2048x1, .f32⟩ : BufTy).Contents (Elt F) → (⟨S_, .f32⟩ : BufTy).Contents (Elt F) → (⟨S_, .f32⟩ : BufTy).Contents (Elt F)),
    StableHlo.binary main_v406 main_v407 main_v408 (subf : (⟨S_, .f32⟩ : BufTy).Contents (Elt F) → (⟨S_, .f32⟩ : BufTy).Contents (Elt F) → (⟨S_, .f32⟩ : BufTy).Contents (Elt F)),
    StableHlo.unary main_v408 main_v409 (broadcastInDim S2048x1 ![] bcast_S_S2048x1 : (⟨S_, .f32⟩ : BufTy).Contents (Elt F) → (⟨S2048x1, .f32⟩ : BufTy).Contents (Elt F)),
    StableHlo.binary main_v405 main_v409 main_v410 (Host.divf : (⟨S2048x1, .f32⟩ : BufTy).Contents (Elt F) → (⟨S2048x1, .f32⟩ : BufTy).Contents (Elt F) → (⟨S2048x1, .f32⟩ : BufTy).Contents (Elt F)),
    StableHlo.nullary main_cst_83 (constant S_ .f32 0xFF800000#32),
    StableHlo.binary main_v402 main_cst_83 main_v411 ((fun x v => Host.reduce FloatOps.maximumf x v reducesTo_S2048x2048_S_d0_1 h_S_) : (⟨S2048x2048, .f32⟩ : BufTy).Contents (Elt F) → (⟨S_, .f32⟩ : BufTy).Contents (Elt F) → (⟨S_, .f32⟩ : BufTy).Contents (Elt F)),
    StableHlo.unary main_v411 main_v412 (broadcastInDim S2048x1 ![] bcast_S_S2048x1 : (⟨S_, .f32⟩ : BufTy).Contents (Elt F) → (⟨S2048x1, .f32⟩ : BufTy).Contents (Elt F)),
    StableHlo.binary main_v410 main_v412 main_v413 (mulf : (⟨S2048x1, .f32⟩ : BufTy).Contents (Elt F) → (⟨S2048x1, .f32⟩ : BufTy).Contents (Elt F) → (⟨S2048x1, .f32⟩ : BufTy).Contents (Elt F)),
    StableHlo.nullary main_cst_84 (constant S_ .f32 0x00000000#32),
    StableHlo.unary main_cst_84 main_v414 (broadcastInDim S2048x2048 ![] bcast_S_S2048x2048 : (⟨S_, .f32⟩ : BufTy).Contents (Elt F) → (⟨S2048x2048, .f32⟩ : BufTy).Contents (Elt F)),
    StableHlo.binary main_v391 main_v414 main_v415 (cmpf .ogt : (⟨S2048x2048, .f32⟩ : BufTy).Contents (Elt F) → (⟨S2048x2048, .f32⟩ : BufTy).Contents (Elt F) → (⟨S2048x2048, .i1⟩ : BufTy).Contents (Elt F)),
    StableHlo.unary main_v413 main_v416 (broadcastInDim S2048x2048 ![0, 1] bcast_S2048x1_S2048x2048_0_1 : (⟨S2048x1, .f32⟩ : BufTy).Contents (Elt F) → (⟨S2048x2048, .f32⟩ : BufTy).Contents (Elt F)),
    StableHlo.binary main_v402 main_v416 main_v417 (addf : (⟨S2048x2048, .f32⟩ : BufTy).Contents (Elt F) → (⟨S2048x2048, .f32⟩ : BufTy).Contents (Elt F) → (⟨S2048x2048, .f32⟩ : BufTy).Contents (Elt F)),
    StableHlo.nullary main_cst_85 (constant S_ .f32 0xD368D4A5#32),
    StableHlo.TRef.unary (StableHlo.TRef.of (T := ⟨S_, .f32⟩) main_cst_85) main_call12.v0 id,
    StableHlo.TRef.unary main_call12.v0 main_call12.v1 (broadcastInDim S2048x2048 ![] bcast_S_S2048x2048),
    StableHlo.TRef.ternary (StableHlo.TRef.of (T := ⟨S2048x2048, .i1⟩) main_v415) (StableHlo.TRef.of (T := ⟨S2048x2048, .f32⟩) main_v417) main_call12.v1 main_call12.v2 select,
    StableHlo.nullary main_cst_86 (constant S_ .f32 0xFF800000#32),
    StableHlo.binary main_v418 main_cst_86 main_v419 ((fun x v => Host.reduce FloatOps.maximumf x v reducesTo_S2048x2048_S2048_d1 h_S_) : (⟨S2048x2048, .f32⟩ : BufTy).Contents (Elt F) → (⟨S_, .f32⟩ : BufTy).Contents (Elt F) → (⟨S2048, .f32⟩ : BufTy).Contents (Elt F)),
    StableHlo.nullary main_cst_87 (constant S_ .f32 0xFF800000#32),
    StableHlo.unary main_cst_87 main_v420 (broadcastInDim S2048 ![] bcast_S_S2048 : (⟨S_, .f32⟩ : BufTy).Contents (Elt F) → (⟨S2048, .f32⟩ : BufTy).Contents (Elt F)),
    StableHlo.binary main_v420 main_v419 main_v421 (maximumf : (⟨S2048, .f32⟩ : BufTy).Contents (Elt F) → (⟨S2048, .f32⟩ : BufTy).Contents (Elt F) → (⟨S2048, .f32⟩ : BufTy).Contents (Elt F)),
    StableHlo.unary main_v421 main_v422 (broadcastInDim S2048x1 ![0] bcast_S2048_S2048x1_0 : (⟨S2048, .f32⟩ : BufTy).Contents (Elt F) → (⟨S2048x1, .f32⟩ : BufTy).Contents (Elt F)),
    StableHlo.unary main_v422 main_v423 (broadcastInDim S2048x2048 ![0, 1] bcast_S2048x1_S2048x2048_0_1 : (⟨S2048x1, .f32⟩ : BufTy).Contents (Elt F) → (⟨S2048x2048, .f32⟩ : BufTy).Contents (Elt F)),
    StableHlo.binary main_v418 main_v423 main_v424 (subf : (⟨S2048x2048, .f32⟩ : BufTy).Contents (Elt F) → (⟨S2048x2048, .f32⟩ : BufTy).Contents (Elt F) → (⟨S2048x2048, .f32⟩ : BufTy).Contents (Elt F)),
    StableHlo.unary main_v424 main_v425 (Host.exp : (⟨S2048x2048, .f32⟩ : BufTy).Contents (Elt F) → (⟨S2048x2048, .f32⟩ : BufTy).Contents (Elt F)),
    StableHlo.nullary main_cst_88 (constant S_ .f32 0x00000000#32),
    StableHlo.binary main_v425 main_cst_88 main_v426 ((fun x v => Host.reduceAdd x v reducesTo_S2048x2048_S2048_d1 h_S_) : (⟨S2048x2048, .f32⟩ : BufTy).Contents (Elt F) → (⟨S_, .f32⟩ : BufTy).Contents (Elt F) → (⟨S2048, .f32⟩ : BufTy).Contents (Elt F)),
    StableHlo.unary main_v426 main_v427 (broadcastInDim S2048x1 ![0] bcast_S2048_S2048x1_0 : (⟨S2048, .f32⟩ : BufTy).Contents (Elt F) → (⟨S2048x1, .f32⟩ : BufTy).Contents (Elt F)),
    StableHlo.unary main_v427 main_v428 (broadcastInDim S2048x2048 ![0, 1] bcast_S2048x1_S2048x2048_0_1 : (⟨S2048x1, .f32⟩ : BufTy).Contents (Elt F) → (⟨S2048x2048, .f32⟩ : BufTy).Contents (Elt F)),
    StableHlo.binary main_v425 main_v428 main_v429 (Host.divf : (⟨S2048x2048, .f32⟩ : BufTy).Contents (Elt F) → (⟨S2048x2048, .f32⟩ : BufTy).Contents (Elt F) → (⟨S2048x2048, .f32⟩ : BufTy).Contents (Elt F)),
    StableHlo.unary main_v429 main_v430 ((transpose S2048x2048 [1, 0] · transposes_S2048x2048_S2048x2048_1_0) : (⟨S2048x2048, .f32⟩ : BufTy).Contents (Elt F) → (⟨S2048x2048, .f32⟩ : BufTy).Contents (Elt F)),
    StableHlo.binary main_v430 main_v390 main_v431 ((fun l r => Host.dotGeneral dot_S2048x2048_S2048x8_S2048x8_1_0_0_1_n_n none l r) : (⟨S2048x2048, .f32⟩ : BufTy).Contents (Elt F) → (⟨S2048x8, .f32⟩ : BufTy).Contents (Elt F) → (⟨S2048x8, .f32⟩ : BufTy).Contents (Elt F)),
    StableHlo.TRef.nullary main_call13.cst (constant S_ .f32 0x00000000#32),
    StableHlo.TRef.unary main_call13.cst main_call13.v0 (broadcastInDim S2048x8 ![] bcast_S_S2048x8),
    StableHlo.TRef.binary (StableHlo.TRef.of (T := ⟨S2048x8, .f32⟩) main_v431) main_call13.v0 main_call13.v1 (cmpf .ogt),
    StableHlo.TRef.nullary main_call13.cst_0 (constant S_ .f32 0x00000000#32),
    StableHlo.TRef.unary main_call13.cst_0 main_call13.v2 (broadcastInDim S2048x8 ![] bcast_S_S2048x8),
    StableHlo.TRef.binary (StableHlo.TRef.of (T := ⟨S2048x8, .f32⟩) main_v431) main_call13.v2 main_call13.v3 (cmpf .ogt),
    StableHlo.TRef.nullary main_call13.cst_1 (constant S_ .f32 0x00000000#32),
    StableHlo.TRef.unary main_call13.cst_1 main_call13.call0.v0 id,
    StableHlo.TRef.unary main_call13.call0.v0 main_call13.call0.v1 (broadcastInDim S2048x8 ![] bcast_S_S2048x8),
    StableHlo.TRef.ternary main_call13.v3 main_call13.call0.v1 (StableHlo.TRef.of (T := ⟨S2048x8, .f32⟩) main_v431) main_call13.call0.v2 select,
    StableHlo.TRef.unary main_call13.call0.v2 main_call13.v5 Host.expm1,
    StableHlo.TRef.nullary main_call13.cst_2 (constant S_ .f32 0x3F800000#32),
    StableHlo.TRef.unary main_call13.cst_2 main_call13.v6 (broadcastInDim S2048x8 ![] bcast_S_S2048x8),
    StableHlo.TRef.binary main_call13.v6 main_call13.v5 main_call13.v7 mulf,
    StableHlo.TRef.ternary main_call13.v1 (StableHlo.TRef.of (T := ⟨S2048x8, .f32⟩) main_v431) main_call13.v7 main_call13.call1.v0 select,
    StableHlo.unary main_v184 main_v433 ((extractStridedSlice S16x1 ![0, 2] · slices_S16x8_S16x1_0_2) : (⟨S16x8, .f32⟩ : BufTy).Contents (Elt F) → (⟨S16x1, .f32⟩ : BufTy).Contents (Elt F)),
    StableHlo.unary main_v184 main_v434 ((extractStridedSlice S16x1 ![0, 6] · slices_S16x8_S16x1_0_6) : (⟨S16x8, .f32⟩ : BufTy).Contents (Elt F) → (⟨S16x1, .f32⟩ : BufTy).Contents (Elt F)),
    StableHlo.unary main_arg4 main_v435 ((extractStridedSlice S1x256x8 ![2, 0, 0] · slices_S4x256x8_S1x256x8_2_0_0) : (⟨S4x256x8, .f32⟩ : BufTy).Contents (Elt F) → (⟨S1x256x8, .f32⟩ : BufTy).Contents (Elt F)),
    StableHlo.reshape main_v435 main_v436 rfl shapeCasts_S1x256x8_S256x8,
    StableHlo.binary main_v48 main_v48 main_v437 (mulf : (⟨S2048x256, .f32⟩ : BufTy).Contents (Elt F) → (⟨S2048x256, .f32⟩ : BufTy).Contents (Elt F) → (⟨S2048x256, .f32⟩ : BufTy).Contents (Elt F)),
    StableHlo.nullary main_cst_89 (constant S_ .f32 0x00000000#32),
    StableHlo.binary main_v437 main_cst_89 main_v438 ((fun x v => Host.reduceAdd x v reducesTo_S2048x256_S2048_d1 h_S_) : (⟨S2048x256, .f32⟩ : BufTy).Contents (Elt F) → (⟨S_, .f32⟩ : BufTy).Contents (Elt F) → (⟨S2048, .f32⟩ : BufTy).Contents (Elt F)),
    StableHlo.unary main_v438 main_v439 (Host.sqrt : (⟨S2048, .f32⟩ : BufTy).Contents (Elt F) → (⟨S2048, .f32⟩ : BufTy).Contents (Elt F)),
    StableHlo.unary main_v48 main_v440 ((transpose S256x2048 [1, 0] · transposes_S2048x256_S256x2048_1_0) : (⟨S2048x256, .f32⟩ : BufTy).Contents (Elt F) → (⟨S256x2048, .f32⟩ : BufTy).Contents (Elt F)),
    StableHlo.binary main_v48 main_v440 main_v441 ((fun l r => Host.dotGeneral dot_S2048x256_S256x2048_S2048x2048_1_0_0_1_n_n none l r) : (⟨S2048x256, .f32⟩ : BufTy).Contents (Elt F) → (⟨S256x2048, .f32⟩ : BufTy).Contents (Elt F) → (⟨S2048x2048, .f32⟩ : BufTy).Contents (Elt F)),
    StableHlo.unary main_v439 main_v442 (broadcastInDim S2048x1 ![0] bcast_S2048_S2048x1_0 : (⟨S2048, .f32⟩ : BufTy).Contents (Elt F) → (⟨S2048x1, .f32⟩ : BufTy).Contents (Elt F)),
    StableHlo.unary main_v439 main_v443 (broadcastInDim S1x2048 ![1] bcast_S2048_S1x2048_1 : (⟨S2048, .f32⟩ : BufTy).Contents (Elt F) → (⟨S1x2048, .f32⟩ : BufTy).Contents (Elt F)),
    StableHlo.unary main_v442 main_v444 (broadcastInDim S2048x2048 ![0, 1] bcast_S2048x1_S2048x2048_0_1 : (⟨S2048x1, .f32⟩ : BufTy).Contents (Elt F) → (⟨S2048x2048, .f32⟩ : BufTy).Contents (Elt F)),
    StableHlo.unary main_v443 main_v445 (broadcastInDim S2048x2048 ![0, 1] bcast_S1x2048_S2048x2048_0_1 : (⟨S1x2048, .f32⟩ : BufTy).Contents (Elt F) → (⟨S2048x2048, .f32⟩ : BufTy).Contents (Elt F)),
    StableHlo.binary main_v444 main_v445 main_v446 (mulf : (⟨S2048x2048, .f32⟩ : BufTy).Contents (Elt F) → (⟨S2048x2048, .f32⟩ : BufTy).Contents (Elt F) → (⟨S2048x2048, .f32⟩ : BufTy).Contents (Elt F)),
    StableHlo.binary main_v441 main_v446 main_v447 (Host.divf : (⟨S2048x2048, .f32⟩ : BufTy).Contents (Elt F) → (⟨S2048x2048, .f32⟩ : BufTy).Contents (Elt F) → (⟨S2048x2048, .f32⟩ : BufTy).Contents (Elt F)) ]

set_option maxRecDepth 16384 in
set_option maxHeartbeats 4000000 in
/-- The window is that line: the called functions unfold at their calls and sequencing re-associates. -/
theorem main_part8_eq (c : Dev nD) : main_part8 (F := F) c = StableHlo.seq ops_part8 := rfl

set_option maxRecDepth 16384 in
set_option maxHeartbeats 4000000 in
/-- Every operation of the window is good; the result's index is compared by computation. -/
theorem ops_part8_good : (ops_part8 : List (HloOp τ sig (Elt F))).Forall (Good 12) :=
  ⟨unary_good (h := by decide) .., unary_good (h := by decide) .., binary_good (h := by decide) .., nullary_good (h := by decide) ..,
    nullary_good (h := by decide) .., unary_good (h := by decide) .., binary_good (h := by decide) .., unary_good (h := by decide) ..,
    unary_good (h := by decide) .., binary_good (h := by decide) .., ternary_good (h := by decide) .., nullary_good (h := by decide) ..,
    binary_good (h := by decide) .., unary_good (h := by decide) .., binary_good (h := by decide) .., nullary_good (h := by decide) ..,
    binary_good (h := by decide) .., nullary_good (h := by decide) .., binary_good (h := by decide) .., binary_good (h := by decide) ..,
    unary_good (h := by decide) .., binary_good (h := by decide) .., nullary_good (h := by decide) .., binary_good (h := by decide) ..,
    unary_good (h := by decide) .., binary_good (h := by decide) .., nullary_good (h := by decide) .., unary_good (h := by decide) ..,
    binary_good (h := by decide) .., unary_good (h := by decide) .., binary_good (h := by decide) .., nullary_good (h := by decide) ..,
    unary_good (h := by decide) .., unary_good (h := by decide) .., ternary_good (h := by decide) .., nullary_good (h := by decide) ..,
    binary_good (h := by decide) .., nullary_good (h := by decide) .., unary_good (h := by decide) .., binary_good (h := by decide) ..,
    unary_good (h := by decide) .., unary_good (h := by decide) .., binary_good (h := by decide) .., unary_good (h := by decide) ..,
    nullary_good (h := by decide) .., binary_good (h := by decide) .., unary_good (h := by decide) .., unary_good (h := by decide) ..,
    binary_good (h := by decide) .., unary_good (h := by decide) .., binary_good (h := by decide) .., nullary_good (h := by decide) ..,
    unary_good (h := by decide) .., binary_good (h := by decide) .., nullary_good (h := by decide) .., unary_good (h := by decide) ..,
    binary_good (h := by decide) .., nullary_good (h := by decide) .., unary_good (h := by decide) .., unary_good (h := by decide) ..,
    ternary_good (h := by decide) .., unary_good (h := by decide) .., nullary_good (h := by decide) .., unary_good (h := by decide) ..,
    binary_good (h := by decide) .., ternary_good (h := by decide) .., unary_good (h := by decide) .., unary_good (h := by decide) ..,
    unary_good (h := by decide) .., reshape_good (h := by decide) .., binary_good (h := by decide) .., nullary_good (h := by decide) ..,
    binary_good (h := by decide) .., unary_good (h := by decide) .., unary_good (h := by decide) .., binary_good (h := by decide) ..,
    unary_good (h := by decide) .., unary_good (h := by decide) .., unary_good (h := by decide) .., unary_good (h := by decide) ..,
    binary_good (h := by decide) .., binary_good (h := by decide) ..⟩

end Cert.ReferenceIdeal.Hand

end
-- ==== Proof.Ref.W09.lean ====
import proofs.«146970_j35948876268088_1_alg».proof.ReferenceIdeal.P02
import proofs.«146970_j35948876268088_1_alg».proof.Proof.Ref.Keep

noncomputable section

namespace Cert.ReferenceIdeal.Hand

open Cert.ReferenceIdeal Idealize.ShloMosaic Idealize.ShloMosaic.TcCoe Idealize.SL.Sem Idealize.ShloMosaic.StableHlo

variable {F : FTy → Type} [FloatOps F]

variable [Facts]
open Facts₀ Facts

set_option maxHeartbeats 4000000 in
/-- The operations of window 9, in order; a called function's operations stand in its call's place. -/
abbrev ops_part9 : List (HloOp τ sig (Elt F)) :=
  [ StableHlo.nullary main_v448 (iotaInDim S2048x2048 32 0),
    StableHlo.nullary main_v449 (iotaInDim S2048x2048 32 1),
    StableHlo.nullary main_c_90 (constantI S_ 32 0#32),
    StableHlo.unary main_c_90 main_v450 (broadcastInDim S2048x2048 ![] bcast_S_S2048x2048 : (⟨S_, .i32⟩ : BufTy).Contents (Elt F) → (⟨S2048x2048, .i32⟩ : BufTy).Contents (Elt F)),
    StableHlo.binary main_v448 main_v450 main_v451 (addi : (⟨S2048x2048, .i32⟩ : BufTy).Contents (Elt F) → (⟨S2048x2048, .i32⟩ : BufTy).Contents (Elt F) → (⟨S2048x2048, .i32⟩ : BufTy).Contents (Elt F)),
    StableHlo.binary main_v451 main_v449 main_v452 (cmpi .eq : (⟨S2048x2048, .i32⟩ : BufTy).Contents (Elt F) → (⟨S2048x2048, .i32⟩ : BufTy).Contents (Elt F) → (⟨S2048x2048, .i1⟩ : BufTy).Contents (Elt F)),
    StableHlo.unary main_v452 main_v453 (uitofp .f32 : (⟨S2048x2048, .i1⟩ : BufTy).Contents (Elt F) → (⟨S2048x2048, .f32⟩ : BufTy).Contents (Elt F)),
    StableHlo.nullary main_cst_91 (constant S_ .f32 0x3F800000#32),
    StableHlo.unary main_cst_91 main_v454 (broadcastInDim S2048x2048 ![] bcast_S_S2048x2048 : (⟨S_, .f32⟩ : BufTy).Contents (Elt F) → (⟨S2048x2048, .f32⟩ : BufTy).Contents (Elt F)),
    StableHlo.binary main_v454 main_v453 main_v455 (subf : (⟨S2048x2048, .f32⟩ : BufTy).Contents (Elt F) → (⟨S2048x2048, .f32⟩ : BufTy).Contents (Elt F) → (⟨S2048x2048, .f32⟩ : BufTy).Contents (Elt F)),
    StableHlo.nullary main_cst_92 (constant S_ .f32 0x3F000000#32),
    StableHlo.unary main_cst_92 main_v456 (broadcastInDim S2048x2048 ![] bcast_S_S2048x2048 : (⟨S_, .f32⟩ : BufTy).Contents (Elt F) → (⟨S2048x2048, .f32⟩ : BufTy).Contents (Elt F)),
    StableHlo.binary main_v447 main_v456 main_v457 (cmpf .ogt : (⟨S2048x2048, .f32⟩ : BufTy).Contents (Elt F) → (⟨S2048x2048, .f32⟩ : BufTy).Contents (Elt F) → (⟨S2048x2048, .i1⟩ : BufTy).Contents (Elt F)),
    StableHlo.nullary main_cst_93 (constant S_ .f32 0x00000000#32),
    StableHlo.TRef.unary (StableHlo.TRef.of (T := ⟨S_, .f32⟩) main_cst_93) main_call14.v0 id,
    StableHlo.TRef.unary main_call14.v0 main_call14.v1 (broadcastInDim S2048x2048 ![] bcast_S_S2048x2048),
    StableHlo.TRef.ternary (StableHlo.TRef.of (T := ⟨S2048x2048, .i1⟩) main_v457) (StableHlo.TRef.of (T := ⟨S2048x2048, .f32⟩) main_v447) main_call14.v1 main_call14.v2 select,
    StableHlo.binary main_v458 main_v455 main_v459 (mulf : (⟨S2048x2048, .f32⟩ : BufTy).Contents (Elt F) → (⟨S2048x2048, .f32⟩ : BufTy).Contents (Elt F) → (⟨S2048x2048, .f32⟩ : BufTy).Contents (Elt F)),
    StableHlo.unary main_v26 main_v460 ((transpose S2048x2048 [1, 0] · transposes_S2048x2048_S2048x2048_1_0) : (⟨S2048x2048, .f32⟩ : BufTy).Contents (Elt F) → (⟨S2048x2048, .f32⟩ : BufTy).Contents (Elt F)),
    StableHlo.binary main_v26 main_v460 main_v461 ((fun l r => Host.dotGeneral dot_S2048x2048_S2048x2048_S2048x2048_1_0_0_1_n_n none l r) : (⟨S2048x2048, .f32⟩ : BufTy).Contents (Elt F) → (⟨S2048x2048, .f32⟩ : BufTy).Contents (Elt F) → (⟨S2048x2048, .f32⟩ : BufTy).Contents (Elt F)),
    StableHlo.nullary main_cst_94 (constant S_ .f32 0x00000000#32),
    StableHlo.unary main_cst_94 main_v462 (broadcastInDim S2048x2048 ![] bcast_S_S2048x2048 : (⟨S_, .f32⟩ : BufTy).Contents (Elt F) → (⟨S2048x2048, .f32⟩ : BufTy).Contents (Elt F)),
    StableHlo.binary main_v461 main_v462 main_v463 (cmpf .ogt : (⟨S2048x2048, .f32⟩ : BufTy).Contents (Elt F) → (⟨S2048x2048, .f32⟩ : BufTy).Contents (Elt F) → (⟨S2048x2048, .i1⟩ : BufTy).Contents (Elt F)),
    StableHlo.unary main_v463 main_v464 (uitofp .f32 : (⟨S2048x2048, .i1⟩ : BufTy).Contents (Elt F) → (⟨S2048x2048, .f32⟩ : BufTy).Contents (Elt F)),
    StableHlo.binary main_v464 main_v455 main_v465 (mulf : (⟨S2048x2048, .f32⟩ : BufTy).Contents (Elt F) → (⟨S2048x2048, .f32⟩ : BufTy).Contents (Elt F) → (⟨S2048x2048, .f32⟩ : BufTy).Contents (Elt F)),
    StableHlo.binary main_v459 main_v465 main_v466 (mulf : (⟨S2048x2048, .f32⟩ : BufTy).Contents (Elt F) → (⟨S2048x2048, .f32⟩ : BufTy).Contents (Elt F) → (⟨S2048x2048, .f32⟩ : BufTy).Contents (Elt F)),
    StableHlo.nullary main_cst_95 (constant S_ .f32 0x00000000#32),
    StableHlo.binary main_v466 main_cst_95 main_v467 ((fun x v => Host.reduceAdd x v reducesTo_S2048x2048_S2048_d1 h_S_) : (⟨S2048x2048, .f32⟩ : BufTy).Contents (Elt F) → (⟨S_, .f32⟩ : BufTy).Contents (Elt F) → (⟨S2048, .f32⟩ : BufTy).Contents (Elt F)),
    StableHlo.unary main_v467 main_v468 (broadcastInDim S2048x1 ![0] bcast_S2048_S2048x1_0 : (⟨S2048, .f32⟩ : BufTy).Contents (Elt F) → (⟨S2048x1, .f32⟩ : BufTy).Contents (Elt F)),
    StableHlo.unary main_v468 main_v469 (broadcastInDim S2048x2048 ![0, 1] bcast_S2048x1_S2048x2048_0_1 : (⟨S2048x1, .f32⟩ : BufTy).Contents (Elt F) → (⟨S2048x2048, .f32⟩ : BufTy).Contents (Elt F)),
    StableHlo.binary main_v26 main_v469 main_v470 (mulf : (⟨S2048x2048, .f32⟩ : BufTy).Contents (Elt F) → (⟨S2048x2048, .f32⟩ : BufTy).Contents (Elt F) → (⟨S2048x2048, .f32⟩ : BufTy).Contents (Elt F)),
    StableHlo.nullary main_cst_96 (constant S_ .f32 0x00000000#32),
    StableHlo.binary main_v470 main_cst_96 main_v471 ((fun x v => Host.reduceAdd x v reducesTo_S2048x2048_S2048_d0 h_S_) : (⟨S2048x2048, .f32⟩ : BufTy).Contents (Elt F) → (⟨S_, .f32⟩ : BufTy).Contents (Elt F) → (⟨S2048, .f32⟩ : BufTy).Contents (Elt F)),
    StableHlo.unary main_v471 main_v472 (broadcastInDim S2048x1 ![0] bcast_S2048_S2048x1_0 : (⟨S2048, .f32⟩ : BufTy).Contents (Elt F) → (⟨S2048x1, .f32⟩ : BufTy).Contents (Elt F)),
    StableHlo.binary main_v48 main_v436 main_v473 ((fun l r => Host.dotGeneral dot_S2048x256_S256x8_S2048x8_1_0_0_1_n_n none l r) : (⟨S2048x256, .f32⟩ : BufTy).Contents (Elt F) → (⟨S256x8, .f32⟩ : BufTy).Contents (Elt F) → (⟨S2048x8, .f32⟩ : BufTy).Contents (Elt F)),
    StableHlo.binary main_v48 main_v436 main_v474 ((fun l r => Host.dotGeneral dot_S2048x256_S256x8_S2048x8_1_0_0_1_n_n none l r) : (⟨S2048x256, .f32⟩ : BufTy).Contents (Elt F) → (⟨S256x8, .f32⟩ : BufTy).Contents (Elt F) → (⟨S2048x8, .f32⟩ : BufTy).Contents (Elt F)),
    StableHlo.binary main_v41 main_v436 main_v475 ((fun l r => Host.dotGeneral dot_S2048x256_S256x8_S2048x8_1_0_0_1_n_n none l r) : (⟨S2048x256, .f32⟩ : BufTy).Contents (Elt F) → (⟨S256x8, .f32⟩ : BufTy).Contents (Elt F) → (⟨S2048x8, .f32⟩ : BufTy).Contents (Elt F)),
    StableHlo.unary main_v433 main_v476 ((extractStridedSlice S8x1 ![0, 0] · slices_S16x1_S8x1_0_0) : (⟨S16x1, .f32⟩ : BufTy).Contents (Elt F) → (⟨S8x1, .f32⟩ : BufTy).Contents (Elt F)),
    StableHlo.binary main_v474 main_v476 main_v477 ((fun l r => Host.dotGeneral dot_S2048x8_S8x1_S2048x1_1_0_0_1_n_n none l r) : (⟨S2048x8, .f32⟩ : BufTy).Contents (Elt F) → (⟨S8x1, .f32⟩ : BufTy).Contents (Elt F) → (⟨S2048x1, .f32⟩ : BufTy).Contents (Elt F)),
    StableHlo.unary main_v433 main_v478 ((extractStridedSlice S8x1 ![8, 0] · slices_S16x1_S8x1_8_0) : (⟨S16x1, .f32⟩ : BufTy).Contents (Elt F) → (⟨S8x1, .f32⟩ : BufTy).Contents (Elt F)),
    StableHlo.binary main_v475 main_v478 main_v479 ((fun l r => Host.dotGeneral dot_S2048x8_S8x1_S2048x1_1_0_0_1_n_n none l r) : (⟨S2048x8, .f32⟩ : BufTy).Contents (Elt F) → (⟨S8x1, .f32⟩ : BufTy).Contents (Elt F) → (⟨S2048x1, .f32⟩ : BufTy).Contents (Elt F)),
    StableHlo.unary main_v479 main_v480 ((transpose S1x2048 [1, 0] · transposes_S2048x1_S1x2048_1_0) : (⟨S2048x1, .f32⟩ : BufTy).Contents (Elt F) → (⟨S1x2048, .f32⟩ : BufTy).Contents (Elt F)),
    StableHlo.unary main_v477 main_v481 (broadcastInDim S2048x2048 ![0, 1] bcast_S2048x1_S2048x2048_0_1 : (⟨S2048x1, .f32⟩ : BufTy).Contents (Elt F) → (⟨S2048x2048, .f32⟩ : BufTy).Contents (Elt F)),
    StableHlo.unary main_v480 main_v482 (broadcastInDim S2048x2048 ![0, 1] bcast_S1x2048_S2048x2048_0_1 : (⟨S1x2048, .f32⟩ : BufTy).Contents (Elt F) → (⟨S2048x2048, .f32⟩ : BufTy).Contents (Elt F)),
    StableHlo.binary main_v481 main_v482 main_v483 (addf : (⟨S2048x2048, .f32⟩ : BufTy).Contents (Elt F) → (⟨S2048x2048, .f32⟩ : BufTy).Contents (Elt F) → (⟨S2048x2048, .f32⟩ : BufTy).Contents (Elt F)),
    StableHlo.nullary main_cst_97 (constant S_ .f32 0x3E4CCCCD#32),
    StableHlo.TRef.nullary main_call15.cst (constant S_ .f32 0x00000000#32),
    StableHlo.TRef.unary main_call15.cst main_call15.v0 (broadcastInDim S2048x2048 ![] bcast_S_S2048x2048),
    StableHlo.TRef.binary (StableHlo.TRef.of (T := ⟨S2048x2048, .f32⟩) main_v483) main_call15.v0 main_call15.v1 (cmpf .oge),
    StableHlo.TRef.unary (StableHlo.TRef.of (T := ⟨S_, .f32⟩) main_cst_97) main_call15.v2 id,
    StableHlo.TRef.unary main_call15.v2 main_call15.v3 (broadcastInDim S2048x2048 ![] bcast_S_S2048x2048),
    StableHlo.TRef.binary main_call15.v3 (StableHlo.TRef.of (T := ⟨S2048x2048, .f32⟩) main_v483) main_call15.v4 mulf,
    StableHlo.TRef.ternary main_call15.v1 (StableHlo.TRef.of (T := ⟨S2048x2048, .f32⟩) main_v483) main_call15.v4 main_call15.call0.v0 select,
    StableHlo.nullary main_cst_98 (constant S_ .f32 0x7F800000#32),
    StableHlo.binary main_v468 main_cst_98 main_v485 ((fun x v => Host.reduce FloatOps.minimumf x v reducesTo_S2048x1_S_d0_1 h_S_) : (⟨S2048x1, .f32⟩ : BufTy).Contents (Elt F) → (⟨S_, .f32⟩ : BufTy).Contents (Elt F) → (⟨S_, .f32⟩ : BufTy).Contents (Elt F)),
    StableHlo.unary main_v485 main_v486 (broadcastInDim S2048x1 ![] bcast_S_S2048x1 : (⟨S_, .f32⟩ : BufTy).Contents (Elt F) → (⟨S2048x1, .f32⟩ : BufTy).Contents (Elt F)),
    StableHlo.binary main_v468 main_v486 main_v487 (subf : (⟨S2048x1, .f32⟩ : BufTy).Contents (Elt F) → (⟨S2048x1, .f32⟩ : BufTy).Contents (Elt F) → (⟨S2048x1, .f32⟩ : BufTy).Contents (Elt F)),
    StableHlo.nullary main_cst_99 (constant S_ .f32 0xFF800000#32),
    StableHlo.binary main_v468 main_cst_99 main_v488 ((fun x v => Host.reduce FloatOps.maximumf x v reducesTo_S2048x1_S_d0_1 h_S_) : (⟨S2048x1, .f32⟩ : BufTy).Contents (Elt F) → (⟨S_, .f32⟩ : BufTy).Contents (Elt F) → (⟨S_, .f32⟩ : BufTy).Contents (Elt F)),
    StableHlo.nullary main_cst_100 (constant S_ .f32 0x7F800000#32),
    StableHlo.binary main_v468 main_cst_100 main_v489 ((fun x v => Host.reduce FloatOps.minimumf x v reducesTo_S2048x1_S_d0_1 h_S_) : (⟨S2048x1, .f32⟩ : BufTy).Contents (Elt F) → (⟨S_, .f32⟩ : BufTy).Contents (Elt F) → (⟨S_, .f32⟩ : BufTy).Contents (Elt F)),
    StableHlo.binary main_v488 main_v489 main_v490 (subf : (⟨S_, .f32⟩ : BufTy).Contents (Elt F) → (⟨S_, .f32⟩ : BufTy).Contents (Elt F) → (⟨S_, .f32⟩ : BufTy).Contents (Elt F)),
    StableHlo.unary main_v490 main_v491 (broadcastInDim S2048x1 ![] bcast_S_S2048x1 : (⟨S_, .f32⟩ : BufTy).Contents (Elt F) → (⟨S2048x1, .f32⟩ : BufTy).Contents (Elt F)),
    StableHlo.binary main_v487 main_v491 main_v492 (Host.divf : (⟨S2048x1, .f32⟩ : BufTy).Contents (Elt F) → (⟨S2048x1, .f32⟩ : BufTy).Contents (Elt F) → (⟨S2048x1, .f32⟩ : BufTy).Contents (Elt F)),
    StableHlo.nullary main_cst_101 (constant S_ .f32 0xFF800000#32),
    StableHlo.binary main_v484 main_cst_101 main_v493 ((fun x v => Host.reduce FloatOps.maximumf x v reducesTo_S2048x2048_S_d0_1 h_S_) : (⟨S2048x2048, .f32⟩ : BufTy).Contents (Elt F) → (⟨S_, .f32⟩ : BufTy).Contents (Elt F) → (⟨S_, .f32⟩ : BufTy).Contents (Elt F)),
    StableHlo.unary main_v493 main_v494 (broadcastInDim S2048x1 ![] bcast_S_S2048x1 : (⟨S_, .f32⟩ : BufTy).Contents (Elt F) → (⟨S2048x1, .f32⟩ : BufTy).Contents (Elt F)),
    StableHlo.binary main_v492 main_v494 main_v495 (mulf : (⟨S2048x1, .f32⟩ : BufTy).Contents (Elt F) → (⟨S2048x1, .f32⟩ : BufTy).Contents (Elt F) → (⟨S2048x1, .f32⟩ : BufTy).Contents (Elt F)) ]

set_option maxRecDepth 16384 in
set_option maxHeartbeats 4000000 in
/-- The window is that line: the called functions unfold at their calls and sequencing re-associates. -/
theorem main_part9_eq (c : Dev nD) : main_part9 (F := F) c = StableHlo.seq ops_part9 := rfl

set_option maxRecDepth 16384 in
set_option maxHeartbeats 4000000 in
/-- Every operation of the window is good; the result's index is compared by computation. -/
theorem ops_part9_good : (ops_part9 : List (HloOp τ sig (Elt F))).Forall (Good 12) :=
  ⟨nullary_good (h := by decide) .., nullary_good (h := by decide) .., nullary_good (h := by decide) .., unary_good (h := by decide) ..,
    binary_good (h := by decide) .., binary_good (h := by decide) .., unary_good (h := by decide) .., nullary_good (h := by decide) ..,
    unary_good (h := by decide) .., binary_good (h := by decide) .., nullary_good (h := by decide) .., unary_good (h := by decide) ..,
    binary_good (h := by decide) .., nullary_good (h := by decide) .., unary_good (h := by decide) .., unary_good (h := by decide) ..,
    ternary_good (h := by decide) .., binary_good (h := by decide) .., unary_good (h := by decide) .., binary_good (h := by decide) ..,
    nullary_good (h := by decide) .., unary_good (h := by decide) .., binary_good (h := by decide) .., unary_good (h := by decide) ..,
    binary_good (h := by decide) .., binary_good (h := by decide) .., nullary_good (h := by decide) .., binary_good (h := by decide) ..,
    unary_good (h := by decide) .., unary_good (h := by decide) .., binary_good (h := by decide) .., nullary_good (h := by decide) ..,
    binary_good (h := by decide) .., unary_good (h := by decide) .., binary_good (h := by decide) .., binary_good (h := by decide) ..,
    binary_good (h := by decide) .., unary_good (h := by decide) .., binary_good (h := by decide) .., unary_good (h := by decide) ..,
    binary_good (h := by decide) .., unary_good (h := by decide) .., unary_good (h := by decide) .., unary_good (h := by decide) ..,
    binary_good (h := by decide) .., nullary_good (h := by decide) .., nullary_good (h := by decide) .., unary_good (h := by decide) ..,
    binary_good (h := by decide) .., unary_good (h := by decide) .., unary_good (h := by decide) .., binary_good (h := by decide) ..,
    ternary_good (h := by decide) .., nullary_good (h := by decide) .., binary_good (h := by decide) .., unary_good (h := by decide) ..,
    binary_good (h := by decide) .., nullary_good (h := by decide) .., binary_good (h := by decide) .., nullary_good (h := by decide) ..,
    binary_good (h := by decide) .., binary_good (h := by decide) .., unary_good (h := by decide) .., binary_good (h := by decide) ..,
    nullary_good (h := by decide) .., binary_good (h := by decide) .., unary_good (h := by decide) .., binary_good (h := by decide) ..⟩

end Cert.ReferenceIdeal.Hand

end
-- ==== Proof.Ref.W10.lean ====
import proofs.«146970_j35948876268088_1_alg».proof.ReferenceIdeal.P03
import proofs.«146970_j35948876268088_1_alg».proof.Proof.Ref.Keep

noncomputable section

namespace Cert.ReferenceIdeal.Hand

open Cert.ReferenceIdeal Idealize.ShloMosaic Idealize.ShloMosaic.TcCoe Idealize.SL.Sem Idealize.ShloMosaic.StableHlo

variable {F : FTy → Type} [FloatOps F]

variable [Facts]
open Facts₀ Facts

set_option maxHeartbeats 4000000 in
/-- The operations of window 10, in order; a called function's operations stand in its call's place. -/
abbrev ops_part10 : List (HloOp τ sig (Elt F)) :=
  [ StableHlo.nullary main_cst_102 (constant S_ .f32 0x00000000#32),
    StableHlo.unary main_cst_102 main_v496 (broadcastInDim S2048x2048 ![] bcast_S_S2048x2048 : (⟨S_, .f32⟩ : BufTy).Contents (Elt F) → (⟨S2048x2048, .f32⟩ : BufTy).Contents (Elt F)),
    StableHlo.binary main_v26 main_v496 main_v497 (cmpf .ogt : (⟨S2048x2048, .f32⟩ : BufTy).Contents (Elt F) → (⟨S2048x2048, .f32⟩ : BufTy).Contents (Elt F) → (⟨S2048x2048, .i1⟩ : BufTy).Contents (Elt F)),
    StableHlo.unary main_v495 main_v498 (broadcastInDim S2048x2048 ![0, 1] bcast_S2048x1_S2048x2048_0_1 : (⟨S2048x1, .f32⟩ : BufTy).Contents (Elt F) → (⟨S2048x2048, .f32⟩ : BufTy).Contents (Elt F)),
    StableHlo.binary main_v484 main_v498 main_v499 (addf : (⟨S2048x2048, .f32⟩ : BufTy).Contents (Elt F) → (⟨S2048x2048, .f32⟩ : BufTy).Contents (Elt F) → (⟨S2048x2048, .f32⟩ : BufTy).Contents (Elt F)),
    StableHlo.nullary main_cst_103 (constant S_ .f32 0xD368D4A5#32),
    StableHlo.TRef.unary (StableHlo.TRef.of (T := ⟨S_, .f32⟩) main_cst_103) main_call16.v0 id,
    StableHlo.TRef.unary main_call16.v0 main_call16.v1 (broadcastInDim S2048x2048 ![] bcast_S_S2048x2048),
    StableHlo.TRef.ternary (StableHlo.TRef.of (T := ⟨S2048x2048, .i1⟩) main_v497) (StableHlo.TRef.of (T := ⟨S2048x2048, .f32⟩) main_v499) main_call16.v1 main_call16.v2 select,
    StableHlo.nullary main_cst_104 (constant S_ .f32 0xFF800000#32),
    StableHlo.binary main_v500 main_cst_104 main_v501 ((fun x v => Host.reduce FloatOps.maximumf x v reducesTo_S2048x2048_S2048_d1 h_S_) : (⟨S2048x2048, .f32⟩ : BufTy).Contents (Elt F) → (⟨S_, .f32⟩ : BufTy).Contents (Elt F) → (⟨S2048, .f32⟩ : BufTy).Contents (Elt F)),
    StableHlo.nullary main_cst_105 (constant S_ .f32 0xFF800000#32),
    StableHlo.unary main_cst_105 main_v502 (broadcastInDim S2048 ![] bcast_S_S2048 : (⟨S_, .f32⟩ : BufTy).Contents (Elt F) → (⟨S2048, .f32⟩ : BufTy).Contents (Elt F)),
    StableHlo.binary main_v502 main_v501 main_v503 (maximumf : (⟨S2048, .f32⟩ : BufTy).Contents (Elt F) → (⟨S2048, .f32⟩ : BufTy).Contents (Elt F) → (⟨S2048, .f32⟩ : BufTy).Contents (Elt F)),
    StableHlo.unary main_v503 main_v504 (broadcastInDim S2048x1 ![0] bcast_S2048_S2048x1_0 : (⟨S2048, .f32⟩ : BufTy).Contents (Elt F) → (⟨S2048x1, .f32⟩ : BufTy).Contents (Elt F)),
    StableHlo.unary main_v504 main_v505 (broadcastInDim S2048x2048 ![0, 1] bcast_S2048x1_S2048x2048_0_1 : (⟨S2048x1, .f32⟩ : BufTy).Contents (Elt F) → (⟨S2048x2048, .f32⟩ : BufTy).Contents (Elt F)),
    StableHlo.binary main_v500 main_v505 main_v506 (subf : (⟨S2048x2048, .f32⟩ : BufTy).Contents (Elt F) → (⟨S2048x2048, .f32⟩ : BufTy).Contents (Elt F) → (⟨S2048x2048, .f32⟩ : BufTy).Contents (Elt F)),
    StableHlo.unary main_v506 main_v507 (Host.exp : (⟨S2048x2048, .f32⟩ : BufTy).Contents (Elt F) → (⟨S2048x2048, .f32⟩ : BufTy).Contents (Elt F)),
    StableHlo.nullary main_cst_106 (constant S_ .f32 0x00000000#32),
    StableHlo.binary main_v507 main_cst_106 main_v508 ((fun x v => Host.reduceAdd x v reducesTo_S2048x2048_S2048_d1 h_S_) : (⟨S2048x2048, .f32⟩ : BufTy).Contents (Elt F) → (⟨S_, .f32⟩ : BufTy).Contents (Elt F) → (⟨S2048, .f32⟩ : BufTy).Contents (Elt F)),
    StableHlo.unary main_v508 main_v509 (broadcastInDim S2048x1 ![0] bcast_S2048_S2048x1_0 : (⟨S2048, .f32⟩ : BufTy).Contents (Elt F) → (⟨S2048x1, .f32⟩ : BufTy).Contents (Elt F)),
    StableHlo.unary main_v509 main_v510 (broadcastInDim S2048x2048 ![0, 1] bcast_S2048x1_S2048x2048_0_1 : (⟨S2048x1, .f32⟩ : BufTy).Contents (Elt F) → (⟨S2048x2048, .f32⟩ : BufTy).Contents (Elt F)),
    StableHlo.binary main_v507 main_v510 main_v511 (Host.divf : (⟨S2048x2048, .f32⟩ : BufTy).Contents (Elt F) → (⟨S2048x2048, .f32⟩ : BufTy).Contents (Elt F) → (⟨S2048x2048, .f32⟩ : BufTy).Contents (Elt F)),
    StableHlo.unary main_v511 main_v512 ((transpose S2048x2048 [1, 0] · transposes_S2048x2048_S2048x2048_1_0) : (⟨S2048x2048, .f32⟩ : BufTy).Contents (Elt F) → (⟨S2048x2048, .f32⟩ : BufTy).Contents (Elt F)),
    StableHlo.binary main_v512 main_v473 main_v513 ((fun l r => Host.dotGeneral dot_S2048x2048_S2048x8_S2048x8_1_0_0_1_n_n none l r) : (⟨S2048x2048, .f32⟩ : BufTy).Contents (Elt F) → (⟨S2048x8, .f32⟩ : BufTy).Contents (Elt F) → (⟨S2048x8, .f32⟩ : BufTy).Contents (Elt F)),
    StableHlo.TRef.nullary main_call17.cst (constant S_ .f32 0x00000000#32),
    StableHlo.TRef.unary main_call17.cst main_call17.v0 (broadcastInDim S2048x8 ![] bcast_S_S2048x8),
    StableHlo.TRef.binary (StableHlo.TRef.of (T := ⟨S2048x8, .f32⟩) main_v513) main_call17.v0 main_call17.v1 (cmpf .ogt),
    StableHlo.TRef.nullary main_call17.cst_0 (constant S_ .f32 0x00000000#32),
    StableHlo.TRef.unary main_call17.cst_0 main_call17.v2 (broadcastInDim S2048x8 ![] bcast_S_S2048x8),
    StableHlo.TRef.binary (StableHlo.TRef.of (T := ⟨S2048x8, .f32⟩) main_v513) main_call17.v2 main_call17.v3 (cmpf .ogt),
    StableHlo.TRef.nullary main_call17.cst_1 (constant S_ .f32 0x00000000#32),
    StableHlo.TRef.unary main_call17.cst_1 main_call17.call0.v0 id,
    StableHlo.TRef.unary main_call17.call0.v0 main_call17.call0.v1 (broadcastInDim S2048x8 ![] bcast_S_S2048x8),
    StableHlo.TRef.ternary main_call17.v3 main_call17.call0.v1 (StableHlo.TRef.of (T := ⟨S2048x8, .f32⟩) main_v513) main_call17.call0.v2 select,
    StableHlo.TRef.unary main_call17.call0.v2 main_call17.v5 Host.expm1,
    StableHlo.TRef.nullary main_call17.cst_2 (constant S_ .f32 0x3F800000#32),
    StableHlo.TRef.unary main_call17.cst_2 main_call17.v6 (broadcastInDim S2048x8 ![] bcast_S_S2048x8),
    StableHlo.TRef.binary main_call17.v6 main_call17.v5 main_call17.v7 mulf,
    StableHlo.TRef.ternary main_call17.v1 (StableHlo.TRef.of (T := ⟨S2048x8, .f32⟩) main_v513) main_call17.v7 main_call17.call1.v0 select,
    StableHlo.unary main_v26 main_v515 ((transpose S2048x2048 [1, 0] · transposes_S2048x2048_S2048x2048_1_0) : (⟨S2048x2048, .f32⟩ : BufTy).Contents (Elt F) → (⟨S2048x2048, .f32⟩ : BufTy).Contents (Elt F)),
    StableHlo.binary main_v41 main_v436 main_v516 ((fun l r => Host.dotGeneral dot_S2048x256_S256x8_S2048x8_1_0_0_1_n_n none l r) : (⟨S2048x256, .f32⟩ : BufTy).Contents (Elt F) → (⟨S256x8, .f32⟩ : BufTy).Contents (Elt F) → (⟨S2048x8, .f32⟩ : BufTy).Contents (Elt F)),
    StableHlo.binary main_v48 main_v436 main_v517 ((fun l r => Host.dotGeneral dot_S2048x256_S256x8_S2048x8_1_0_0_1_n_n none l r) : (⟨S2048x256, .f32⟩ : BufTy).Contents (Elt F) → (⟨S256x8, .f32⟩ : BufTy).Contents (Elt F) → (⟨S2048x8, .f32⟩ : BufTy).Contents (Elt F)),
    StableHlo.unary main_v434 main_v518 ((extractStridedSlice S8x1 ![0, 0] · slices_S16x1_S8x1_0_0) : (⟨S16x1, .f32⟩ : BufTy).Contents (Elt F) → (⟨S8x1, .f32⟩ : BufTy).Contents (Elt F)),
    StableHlo.binary main_v516 main_v518 main_v519 ((fun l r => Host.dotGeneral dot_S2048x8_S8x1_S2048x1_1_0_0_1_n_n none l r) : (⟨S2048x8, .f32⟩ : BufTy).Contents (Elt F) → (⟨S8x1, .f32⟩ : BufTy).Contents (Elt F) → (⟨S2048x1, .f32⟩ : BufTy).Contents (Elt F)),
    StableHlo.unary main_v434 main_v520 ((extractStridedSlice S8x1 ![8, 0] · slices_S16x1_S8x1_8_0) : (⟨S16x1, .f32⟩ : BufTy).Contents (Elt F) → (⟨S8x1, .f32⟩ : BufTy).Contents (Elt F)),
    StableHlo.binary main_v517 main_v520 main_v521 ((fun l r => Host.dotGeneral dot_S2048x8_S8x1_S2048x1_1_0_0_1_n_n none l r) : (⟨S2048x8, .f32⟩ : BufTy).Contents (Elt F) → (⟨S8x1, .f32⟩ : BufTy).Contents (Elt F) → (⟨S2048x1, .f32⟩ : BufTy).Contents (Elt F)),
    StableHlo.unary main_v521 main_v522 ((transpose S1x2048 [1, 0] · transposes_S2048x1_S1x2048_1_0) : (⟨S2048x1, .f32⟩ : BufTy).Contents (Elt F) → (⟨S1x2048, .f32⟩ : BufTy).Contents (Elt F)),
    StableHlo.unary main_v519 main_v523 (broadcastInDim S2048x2048 ![0, 1] bcast_S2048x1_S2048x2048_0_1 : (⟨S2048x1, .f32⟩ : BufTy).Contents (Elt F) → (⟨S2048x2048, .f32⟩ : BufTy).Contents (Elt F)),
    StableHlo.unary main_v522 main_v524 (broadcastInDim S2048x2048 ![0, 1] bcast_S1x2048_S2048x2048_0_1 : (⟨S1x2048, .f32⟩ : BufTy).Contents (Elt F) → (⟨S2048x2048, .f32⟩ : BufTy).Contents (Elt F)),
    StableHlo.binary main_v523 main_v524 main_v525 (addf : (⟨S2048x2048, .f32⟩ : BufTy).Contents (Elt F) → (⟨S2048x2048, .f32⟩ : BufTy).Contents (Elt F) → (⟨S2048x2048, .f32⟩ : BufTy).Contents (Elt F)),
    StableHlo.nullary main_cst_107 (constant S_ .f32 0x3E4CCCCD#32),
    StableHlo.TRef.nullary main_call18.cst (constant S_ .f32 0x00000000#32),
    StableHlo.TRef.unary main_call18.cst main_call18.v0 (broadcastInDim S2048x2048 ![] bcast_S_S2048x2048),
    StableHlo.TRef.binary (StableHlo.TRef.of (T := ⟨S2048x2048, .f32⟩) main_v525) main_call18.v0 main_call18.v1 (cmpf .oge),
    StableHlo.TRef.unary (StableHlo.TRef.of (T := ⟨S_, .f32⟩) main_cst_107) main_call18.v2 id,
    StableHlo.TRef.unary main_call18.v2 main_call18.v3 (broadcastInDim S2048x2048 ![] bcast_S_S2048x2048),
    StableHlo.TRef.binary main_call18.v3 (StableHlo.TRef.of (T := ⟨S2048x2048, .f32⟩) main_v525) main_call18.v4 mulf,
    StableHlo.TRef.ternary main_call18.v1 (StableHlo.TRef.of (T := ⟨S2048x2048, .f32⟩) main_v525) main_call18.v4 main_call18.call0.v0 select,
    StableHlo.nullary main_cst_108 (constant S_ .f32 0x7F800000#32),
    StableHlo.binary main_v472 main_cst_108 main_v527 ((fun x v => Host.reduce FloatOps.minimumf x v reducesTo_S2048x1_S_d0_1 h_S_) : (⟨S2048x1, .f32⟩ : BufTy).Contents (Elt F) → (⟨S_, .f32⟩ : BufTy).Contents (Elt F) → (⟨S_, .f32⟩ : BufTy).Contents (Elt F)),
    StableHlo.unary main_v527 main_v528 (broadcastInDim S2048x1 ![] bcast_S_S2048x1 : (⟨S_, .f32⟩ : BufTy).Contents (Elt F) → (⟨S2048x1, .f32⟩ : BufTy).Contents (Elt F)),
    StableHlo.binary main_v472 main_v528 main_v529 (subf : (⟨S2048x1, .f32⟩ : BufTy).Contents (Elt F) → (⟨S2048x1, .f32⟩ : BufTy).Contents (Elt F) → (⟨S2048x1, .f32⟩ : BufTy).Contents (Elt F)),
    StableHlo.nullary main_cst_109 (constant S_ .f32 0xFF800000#32),
    StableHlo.binary main_v472 main_cst_109 main_v530 ((fun x v => Host.reduce FloatOps.maximumf x v reducesTo_S2048x1_S_d0_1 h_S_) : (⟨S2048x1, .f32⟩ : BufTy).Contents (Elt F) → (⟨S_, .f32⟩ : BufTy).Contents (Elt F) → (⟨S_, .f32⟩ : BufTy).Contents (Elt F)),
    StableHlo.nullary main_cst_110 (constant S_ .f32 0x7F800000#32),
    StableHlo.binary main_v472 main_cst_110 main_v531 ((fun x v => Host.reduce FloatOps.minimumf x v reducesTo_S2048x1_S_d0_1 h_S_) : (⟨S2048x1, .f32⟩ : BufTy).Contents (Elt F) → (⟨S_, .f32⟩ : BufTy).Contents (Elt F) → (⟨S_, .f32⟩ : BufTy).Contents (Elt F)),
    StableHlo.binary main_v530 main_v531 main_v532 (subf : (⟨S_, .f32⟩ : BufTy).Contents (Elt F) → (⟨S_, .f32⟩ : BufTy).Contents (Elt F) → (⟨S_, .f32⟩ : BufTy).Contents (Elt F)),
    StableHlo.unary main_v532 main_v533 (broadcastInDim S2048x1 ![] bcast_S_S2048x1 : (⟨S_, .f32⟩ : BufTy).Contents (Elt F) → (⟨S2048x1, .f32⟩ : BufTy).Contents (Elt F)),
    StableHlo.binary main_v529 main_v533 main_v534 (Host.divf : (⟨S2048x1, .f32⟩ : BufTy).Contents (Elt F) → (⟨S2048x1, .f32⟩ : BufTy).Contents (Elt F) → (⟨S2048x1, .f32⟩ : BufTy).Contents (Elt F)),
    StableHlo.nullary main_cst_111 (constant S_ .f32 0xFF800000#32),
    StableHlo.binary main_v526 main_cst_111 main_v535 ((fun x v => Host.reduce FloatOps.maximumf x v reducesTo_S2048x2048_S_d0_1 h_S_) : (⟨S2048x2048, .f32⟩ : BufTy).Contents (Elt F) → (⟨S_, .f32⟩ : BufTy).Contents (Elt F) → (⟨S_, .f32⟩ : BufTy).Contents (Elt F)),
    StableHlo.unary main_v535 main_v536 (broadcastInDim S2048x1 ![] bcast_S_S2048x1 : (⟨S_, .f32⟩ : BufTy).Contents (Elt F) → (⟨S2048x1, .f32⟩ : BufTy).Contents (Elt F)),
    StableHlo.binary main_v534 main_v536 main_v537 (mulf : (⟨S2048x1, .f32⟩ : BufTy).Contents (Elt F) → (⟨S2048x1, .f32⟩ : BufTy).Contents (Elt F) → (⟨S2048x1, .f32⟩ : BufTy).Contents (Elt F)),
    StableHlo.nullary main_cst_112 (constant S_ .f32 0x00000000#32),
    StableHlo.unary main_cst_112 main_v538 (broadcastInDim S2048x2048 ![] bcast_S_S2048x2048 : (⟨S_, .f32⟩ : BufTy).Contents (Elt F) → (⟨S2048x2048, .f32⟩ : BufTy).Contents (Elt F)),
    StableHlo.binary main_v515 main_v538 main_v539 (cmpf .ogt : (⟨S2048x2048, .f32⟩ : BufTy).Contents (Elt F) → (⟨S2048x2048, .f32⟩ : BufTy).Contents (Elt F) → (⟨S2048x2048, .i1⟩ : BufTy).Contents (Elt F)),
    StableHlo.unary main_v537 main_v540 (broadcastInDim S2048x2048 ![0, 1] bcast_S2048x1_S2048x2048_0_1 : (⟨S2048x1, .f32⟩ : BufTy).Contents (Elt F) → (⟨S2048x2048, .f32⟩ : BufTy).Contents (Elt F)),
    StableHlo.binary main_v526 main_v540 main_v541 (addf : (⟨S2048x2048, .f32⟩ : BufTy).Contents (Elt F) → (⟨S2048x2048, .f32⟩ : BufTy).Contents (Elt F) → (⟨S2048x2048, .f32⟩ : BufTy).Contents (Elt F)),
    StableHlo.nullary main_cst_113 (constant S_ .f32 0xD368D4A5#32),
    StableHlo.TRef.unary (StableHlo.TRef.of (T := ⟨S_, .f32⟩) main_cst_113) main_call19.v0 id,
    StableHlo.TRef.unary main_call19.v0 main_call19.v1 (broadcastInDim S2048x2048 ![] bcast_S_S2048x2048),
    StableHlo.TRef.ternary (StableHlo.TRef.of (T := ⟨S2048x2048, .i1⟩) main_v539) (StableHlo.TRef.of (T := ⟨S2048x2048, .f32⟩) main_v541) main_call19.v1 main_call19.v2 select,
    StableHlo.nullary main_cst_114 (constant S_ .f32 0xFF800000#32) ]

set_option maxRecDepth 16384 in
set_option maxHeartbeats 4000000 in
/-- The window is that line: the called functions unfold at their calls and sequencing re-associates. -/
theorem main_part10_eq (c : Dev nD) : main_part10 (F := F) c = StableHlo.seq ops_part10 := rfl

set_option maxRecDepth 16384 in
set_option maxHeartbeats 4000000 in
/-- Every operation of the window is good; the result's index is compared by computation. -/
theorem ops_part10_good : (ops_part10 : List (HloOp τ sig (Elt F))).Forall (Good 12) :=
  ⟨nullary_good (h := by decide) .., unary_good (h := by decide) .., binary_good (h := by decide) .., unary_good (h := by decide) ..,
    binary_good (h := by decide) .., nullary_good (h := by decide) .., unary_good (h := by decide) .., unary_good (h := by decide) ..,
    ternary_good (h := by decide) .., nullary_good (h := by decide) .., binary_good (h := by decide) .., nullary_good (h := by decide) ..,
    unary_good (h := by decide) .., binary_good (h := by decide) .., unary_good (h := by decide) .., unary_good (h := by decide) ..,
    binary_good (h := by decide) .., unary_good (h := by decide) .., nullary_good (h := by decide) .., binary_good (h := by decide) ..,
    unary_good (h := by decide) .., unary_good (h := by decide) .., binary_good (h := by decide) .., unary_good (h := by decide) ..,
    binary_good (h := by decide) .., nullary_good (h := by decide) .., unary_good (h := by decide) .., binary_good (h := by decide) ..,
    nullary_good (h := by decide) .., unary_good (h := by decide) .., binary_good (h := by decide) .., nullary_good (h := by decide) ..,
    unary_good (h := by decide) .., unary_good (h := by decide) .., ternary_good (h := by decide) .., unary_good (h := by decide) ..,
    nullary_good (h := by decide) .., unary_good (h := by decide) .., binary_good (h := by decide) .., ternary_good (h := by decide) ..,
    unary_good (h := by decide) .., binary_good (h := by decide) .., binary_good (h := by decide) .., unary_good (h := by decide) ..,
    binary_good (h := by decide) .., unary_good (h := by decide) .., binary_good (h := by decide) .., unary_good (h := by decide) ..,
    unary_good (h := by decide) .., unary_good (h := by decide) .., binary_good (h := by decide) .., nullary_good (h := by decide) ..,
    nullary_good (h := by decide) .., unary_good (h := by decide) .., binary_good (h := by decide) .., unary_good (h := by decide) ..,
    unary_good (h := by decide) .., binary_good (h := by decide) .., ternary_good (h := by decide) .., nullary_good (h := by decide) ..,
    binary_good (h := by decide) .., unary_good (h := by decide) .., binary_good (h := by decide) .., nullary_good (h := by decide) ..,
    binary_good (h := by decide) .., nullary_good (h := by decide) .., binary_good (h := by decide) .., binary_good (h := by decide) ..,
    unary_good (h := by decide) .., binary_good (h := by decide) .., nullary_good (h := by decide) .., binary_good (h := by decide) ..,
    unary_good (h := by decide) .., binary_good (h := by decide) .., nullary_good (h := by decide) .., unary_good (h := by decide) ..,
    binary_good (h := by decide) .., unary_good (h := by decide) .., binary_good (h := by decide) .., nullary_good (h := by decide) ..,
    unary_good (h := by decide) .., unary_good (h := by decide) .., ternary_good (h := by decide) .., nullary_good (h := by decide) ..⟩

end Cert.ReferenceIdeal.Hand

end
-- ==== Proof.Ref.W11.lean ====
import proofs.«146970_j35948876268088_1_alg».proof.ReferenceIdeal.P03
import proofs.«146970_j35948876268088_1_alg».proof.Proof.Ref.Keep

noncomputable section

namespace Cert.ReferenceIdeal.Hand

open Cert.ReferenceIdeal Idealize.ShloMosaic Idealize.ShloMosaic.TcCoe Idealize.SL.Sem Idealize.ShloMosaic.StableHlo

variable {F : FTy → Type} [FloatOps F]

variable [Facts]
open Facts₀ Facts

set_option maxHeartbeats 4000000 in
/-- The operations of window 11, in order; a called function's operations stand in its call's place. -/
abbrev ops_part11 : List (HloOp τ sig (Elt F)) :=
  [ StableHlo.binary main_v542 main_cst_114 main_v543 ((fun x v => Host.reduce FloatOps.maximumf x v reducesTo_S2048x2048_S2048_d1 h_S_) : (⟨S2048x2048, .f32⟩ : BufTy).Contents (Elt F) → (⟨S_, .f32⟩ : BufTy).Contents (Elt F) → (⟨S2048, .f32⟩ : BufTy).Contents (Elt F)),
    StableHlo.nullary main_cst_115 (constant S_ .f32 0xFF800000#32),
    StableHlo.unary main_cst_115 main_v544 (broadcastInDim S2048 ![] bcast_S_S2048 : (⟨S_, .f32⟩ : BufTy).Contents (Elt F) → (⟨S2048, .f32⟩ : BufTy).Contents (Elt F)),
    StableHlo.binary main_v544 main_v543 main_v545 (maximumf : (⟨S2048, .f32⟩ : BufTy).Contents (Elt F) → (⟨S2048, .f32⟩ : BufTy).Contents (Elt F) → (⟨S2048, .f32⟩ : BufTy).Contents (Elt F)),
    StableHlo.unary main_v545 main_v546 (broadcastInDim S2048x1 ![0] bcast_S2048_S2048x1_0 : (⟨S2048, .f32⟩ : BufTy).Contents (Elt F) → (⟨S2048x1, .f32⟩ : BufTy).Contents (Elt F)),
    StableHlo.unary main_v546 main_v547 (broadcastInDim S2048x2048 ![0, 1] bcast_S2048x1_S2048x2048_0_1 : (⟨S2048x1, .f32⟩ : BufTy).Contents (Elt F) → (⟨S2048x2048, .f32⟩ : BufTy).Contents (Elt F)),
    StableHlo.binary main_v542 main_v547 main_v548 (subf : (⟨S2048x2048, .f32⟩ : BufTy).Contents (Elt F) → (⟨S2048x2048, .f32⟩ : BufTy).Contents (Elt F) → (⟨S2048x2048, .f32⟩ : BufTy).Contents (Elt F)),
    StableHlo.unary main_v548 main_v549 (Host.exp : (⟨S2048x2048, .f32⟩ : BufTy).Contents (Elt F) → (⟨S2048x2048, .f32⟩ : BufTy).Contents (Elt F)),
    StableHlo.nullary main_cst_116 (constant S_ .f32 0x00000000#32),
    StableHlo.binary main_v549 main_cst_116 main_v550 ((fun x v => Host.reduceAdd x v reducesTo_S2048x2048_S2048_d1 h_S_) : (⟨S2048x2048, .f32⟩ : BufTy).Contents (Elt F) → (⟨S_, .f32⟩ : BufTy).Contents (Elt F) → (⟨S2048, .f32⟩ : BufTy).Contents (Elt F)),
    StableHlo.unary main_v550 main_v551 (broadcastInDim S2048x1 ![0] bcast_S2048_S2048x1_0 : (⟨S2048, .f32⟩ : BufTy).Contents (Elt F) → (⟨S2048x1, .f32⟩ : BufTy).Contents (Elt F)),
    StableHlo.unary main_v551 main_v552 (broadcastInDim S2048x2048 ![0, 1] bcast_S2048x1_S2048x2048_0_1 : (⟨S2048x1, .f32⟩ : BufTy).Contents (Elt F) → (⟨S2048x2048, .f32⟩ : BufTy).Contents (Elt F)),
    StableHlo.binary main_v549 main_v552 main_v553 (Host.divf : (⟨S2048x2048, .f32⟩ : BufTy).Contents (Elt F) → (⟨S2048x2048, .f32⟩ : BufTy).Contents (Elt F) → (⟨S2048x2048, .f32⟩ : BufTy).Contents (Elt F)),
    StableHlo.unary main_v553 main_v554 ((transpose S2048x2048 [1, 0] · transposes_S2048x2048_S2048x2048_1_0) : (⟨S2048x2048, .f32⟩ : BufTy).Contents (Elt F) → (⟨S2048x2048, .f32⟩ : BufTy).Contents (Elt F)),
    StableHlo.binary main_v554 main_v514 main_v555 ((fun l r => Host.dotGeneral dot_S2048x2048_S2048x8_S2048x8_1_0_0_1_n_n none l r) : (⟨S2048x2048, .f32⟩ : BufTy).Contents (Elt F) → (⟨S2048x8, .f32⟩ : BufTy).Contents (Elt F) → (⟨S2048x8, .f32⟩ : BufTy).Contents (Elt F)),
    StableHlo.TRef.nullary main_call20.cst (constant S_ .f32 0x00000000#32),
    StableHlo.TRef.unary main_call20.cst main_call20.v0 (broadcastInDim S2048x8 ![] bcast_S_S2048x8),
    StableHlo.TRef.binary (StableHlo.TRef.of (T := ⟨S2048x8, .f32⟩) main_v555) main_call20.v0 main_call20.v1 (cmpf .ogt),
    StableHlo.TRef.nullary main_call20.cst_0 (constant S_ .f32 0x00000000#32),
    StableHlo.TRef.unary main_call20.cst_0 main_call20.v2 (broadcastInDim S2048x8 ![] bcast_S_S2048x8),
    StableHlo.TRef.binary (StableHlo.TRef.of (T := ⟨S2048x8, .f32⟩) main_v555) main_call20.v2 main_call20.v3 (cmpf .ogt),
    StableHlo.TRef.nullary main_call20.cst_1 (constant S_ .f32 0x00000000#32),
    StableHlo.TRef.unary main_call20.cst_1 main_call20.call0.v0 id,
    StableHlo.TRef.unary main_call20.call0.v0 main_call20.call0.v1 (broadcastInDim S2048x8 ![] bcast_S_S2048x8),
    StableHlo.TRef.ternary main_call20.v3 main_call20.call0.v1 (StableHlo.TRef.of (T := ⟨S2048x8, .f32⟩) main_v555) main_call20.call0.v2 select,
    StableHlo.TRef.unary main_call20.call0.v2 main_call20.v5 Host.expm1,
    StableHlo.TRef.nullary main_call20.cst_2 (constant S_ .f32 0x3F800000#32),
    StableHlo.TRef.unary main_call20.cst_2 main_call20.v6 (broadcastInDim S2048x8 ![] bcast_S_S2048x8),
    StableHlo.TRef.binary main_call20.v6 main_call20.v5 main_call20.v7 mulf,
    StableHlo.TRef.ternary main_call20.v1 (StableHlo.TRef.of (T := ⟨S2048x8, .f32⟩) main_v555) main_call20.v7 main_call20.call1.v0 select,
    StableHlo.unary main_v184 main_v557 ((extractStridedSlice S16x1 ![0, 3] · slices_S16x8_S16x1_0_3) : (⟨S16x8, .f32⟩ : BufTy).Contents (Elt F) → (⟨S16x1, .f32⟩ : BufTy).Contents (Elt F)),
    StableHlo.unary main_v184 main_v558 ((extractStridedSlice S16x1 ![0, 7] · slices_S16x8_S16x1_0_7) : (⟨S16x8, .f32⟩ : BufTy).Contents (Elt F) → (⟨S16x1, .f32⟩ : BufTy).Contents (Elt F)),
    StableHlo.unary main_arg4 main_v559 ((extractStridedSlice S1x256x8 ![3, 0, 0] · slices_S4x256x8_S1x256x8_3_0_0) : (⟨S4x256x8, .f32⟩ : BufTy).Contents (Elt F) → (⟨S1x256x8, .f32⟩ : BufTy).Contents (Elt F)),
    StableHlo.reshape main_v559 main_v560 rfl shapeCasts_S1x256x8_S256x8,
    StableHlo.binary main_v48 main_v48 main_v561 (mulf : (⟨S2048x256, .f32⟩ : BufTy).Contents (Elt F) → (⟨S2048x256, .f32⟩ : BufTy).Contents (Elt F) → (⟨S2048x256, .f32⟩ : BufTy).Contents (Elt F)),
    StableHlo.nullary main_cst_117 (constant S_ .f32 0x00000000#32),
    StableHlo.binary main_v561 main_cst_117 main_v562 ((fun x v => Host.reduceAdd x v reducesTo_S2048x256_S2048_d1 h_S_) : (⟨S2048x256, .f32⟩ : BufTy).Contents (Elt F) → (⟨S_, .f32⟩ : BufTy).Contents (Elt F) → (⟨S2048, .f32⟩ : BufTy).Contents (Elt F)),
    StableHlo.unary main_v562 main_v563 (Host.sqrt : (⟨S2048, .f32⟩ : BufTy).Contents (Elt F) → (⟨S2048, .f32⟩ : BufTy).Contents (Elt F)),
    StableHlo.unary main_v48 main_v564 ((transpose S256x2048 [1, 0] · transposes_S2048x256_S256x2048_1_0) : (⟨S2048x256, .f32⟩ : BufTy).Contents (Elt F) → (⟨S256x2048, .f32⟩ : BufTy).Contents (Elt F)),
    StableHlo.binary main_v48 main_v564 main_v565 ((fun l r => Host.dotGeneral dot_S2048x256_S256x2048_S2048x2048_1_0_0_1_n_n none l r) : (⟨S2048x256, .f32⟩ : BufTy).Contents (Elt F) → (⟨S256x2048, .f32⟩ : BufTy).Contents (Elt F) → (⟨S2048x2048, .f32⟩ : BufTy).Contents (Elt F)),
    StableHlo.unary main_v563 main_v566 (broadcastInDim S2048x1 ![0] bcast_S2048_S2048x1_0 : (⟨S2048, .f32⟩ : BufTy).Contents (Elt F) → (⟨S2048x1, .f32⟩ : BufTy).Contents (Elt F)),
    StableHlo.unary main_v563 main_v567 (broadcastInDim S1x2048 ![1] bcast_S2048_S1x2048_1 : (⟨S2048, .f32⟩ : BufTy).Contents (Elt F) → (⟨S1x2048, .f32⟩ : BufTy).Contents (Elt F)),
    StableHlo.unary main_v566 main_v568 (broadcastInDim S2048x2048 ![0, 1] bcast_S2048x1_S2048x2048_0_1 : (⟨S2048x1, .f32⟩ : BufTy).Contents (Elt F) → (⟨S2048x2048, .f32⟩ : BufTy).Contents (Elt F)),
    StableHlo.unary main_v567 main_v569 (broadcastInDim S2048x2048 ![0, 1] bcast_S1x2048_S2048x2048_0_1 : (⟨S1x2048, .f32⟩ : BufTy).Contents (Elt F) → (⟨S2048x2048, .f32⟩ : BufTy).Contents (Elt F)),
    StableHlo.binary main_v568 main_v569 main_v570 (mulf : (⟨S2048x2048, .f32⟩ : BufTy).Contents (Elt F) → (⟨S2048x2048, .f32⟩ : BufTy).Contents (Elt F) → (⟨S2048x2048, .f32⟩ : BufTy).Contents (Elt F)),
    StableHlo.binary main_v565 main_v570 main_v571 (Host.divf : (⟨S2048x2048, .f32⟩ : BufTy).Contents (Elt F) → (⟨S2048x2048, .f32⟩ : BufTy).Contents (Elt F) → (⟨S2048x2048, .f32⟩ : BufTy).Contents (Elt F)),
    StableHlo.nullary main_v572 (iotaInDim S2048x2048 32 0),
    StableHlo.nullary main_v573 (iotaInDim S2048x2048 32 1),
    StableHlo.nullary main_c_118 (constantI S_ 32 0#32),
    StableHlo.unary main_c_118 main_v574 (broadcastInDim S2048x2048 ![] bcast_S_S2048x2048 : (⟨S_, .i32⟩ : BufTy).Contents (Elt F) → (⟨S2048x2048, .i32⟩ : BufTy).Contents (Elt F)),
    StableHlo.binary main_v572 main_v574 main_v575 (addi : (⟨S2048x2048, .i32⟩ : BufTy).Contents (Elt F) → (⟨S2048x2048, .i32⟩ : BufTy).Contents (Elt F) → (⟨S2048x2048, .i32⟩ : BufTy).Contents (Elt F)),
    StableHlo.binary main_v575 main_v573 main_v576 (cmpi .eq : (⟨S2048x2048, .i32⟩ : BufTy).Contents (Elt F) → (⟨S2048x2048, .i32⟩ : BufTy).Contents (Elt F) → (⟨S2048x2048, .i1⟩ : BufTy).Contents (Elt F)),
    StableHlo.unary main_v576 main_v577 (uitofp .f32 : (⟨S2048x2048, .i1⟩ : BufTy).Contents (Elt F) → (⟨S2048x2048, .f32⟩ : BufTy).Contents (Elt F)),
    StableHlo.nullary main_cst_119 (constant S_ .f32 0x3F800000#32),
    StableHlo.unary main_cst_119 main_v578 (broadcastInDim S2048x2048 ![] bcast_S_S2048x2048 : (⟨S_, .f32⟩ : BufTy).Contents (Elt F) → (⟨S2048x2048, .f32⟩ : BufTy).Contents (Elt F)),
    StableHlo.binary main_v578 main_v577 main_v579 (subf : (⟨S2048x2048, .f32⟩ : BufTy).Contents (Elt F) → (⟨S2048x2048, .f32⟩ : BufTy).Contents (Elt F) → (⟨S2048x2048, .f32⟩ : BufTy).Contents (Elt F)),
    StableHlo.nullary main_cst_120 (constant S_ .f32 0x3F000000#32),
    StableHlo.unary main_cst_120 main_v580 (broadcastInDim S2048x2048 ![] bcast_S_S2048x2048 : (⟨S_, .f32⟩ : BufTy).Contents (Elt F) → (⟨S2048x2048, .f32⟩ : BufTy).Contents (Elt F)),
    StableHlo.binary main_v571 main_v580 main_v581 (cmpf .ogt : (⟨S2048x2048, .f32⟩ : BufTy).Contents (Elt F) → (⟨S2048x2048, .f32⟩ : BufTy).Contents (Elt F) → (⟨S2048x2048, .i1⟩ : BufTy).Contents (Elt F)),
    StableHlo.nullary main_cst_121 (constant S_ .f32 0x00000000#32),
    StableHlo.TRef.unary (StableHlo.TRef.of (T := ⟨S_, .f32⟩) main_cst_121) main_call21.v0 id,
    StableHlo.TRef.unary main_call21.v0 main_call21.v1 (broadcastInDim S2048x2048 ![] bcast_S_S2048x2048),
    StableHlo.TRef.ternary (StableHlo.TRef.of (T := ⟨S2048x2048, .i1⟩) main_v581) (StableHlo.TRef.of (T := ⟨S2048x2048, .f32⟩) main_v571) main_call21.v1 main_call21.v2 select,
    StableHlo.binary main_v582 main_v579 main_v583 (mulf : (⟨S2048x2048, .f32⟩ : BufTy).Contents (Elt F) → (⟨S2048x2048, .f32⟩ : BufTy).Contents (Elt F) → (⟨S2048x2048, .f32⟩ : BufTy).Contents (Elt F)),
    StableHlo.unary main_v26 main_v584 ((transpose S2048x2048 [1, 0] · transposes_S2048x2048_S2048x2048_1_0) : (⟨S2048x2048, .f32⟩ : BufTy).Contents (Elt F) → (⟨S2048x2048, .f32⟩ : BufTy).Contents (Elt F)),
    StableHlo.binary main_v26 main_v584 main_v585 ((fun l r => Host.dotGeneral dot_S2048x2048_S2048x2048_S2048x2048_1_0_0_1_n_n none l r) : (⟨S2048x2048, .f32⟩ : BufTy).Contents (Elt F) → (⟨S2048x2048, .f32⟩ : BufTy).Contents (Elt F) → (⟨S2048x2048, .f32⟩ : BufTy).Contents (Elt F)),
    StableHlo.nullary main_cst_122 (constant S_ .f32 0x00000000#32),
    StableHlo.unary main_cst_122 main_v586 (broadcastInDim S2048x2048 ![] bcast_S_S2048x2048 : (⟨S_, .f32⟩ : BufTy).Contents (Elt F) → (⟨S2048x2048, .f32⟩ : BufTy).Contents (Elt F)),
    StableHlo.binary main_v585 main_v586 main_v587 (cmpf .ogt : (⟨S2048x2048, .f32⟩ : BufTy).Contents (Elt F) → (⟨S2048x2048, .f32⟩ : BufTy).Contents (Elt F) → (⟨S2048x2048, .i1⟩ : BufTy).Contents (Elt F)),
    StableHlo.unary main_v587 main_v588 (uitofp .f32 : (⟨S2048x2048, .i1⟩ : BufTy).Contents (Elt F) → (⟨S2048x2048, .f32⟩ : BufTy).Contents (Elt F)),
    StableHlo.binary main_v588 main_v579 main_v589 (mulf : (⟨S2048x2048, .f32⟩ : BufTy).Contents (Elt F) → (⟨S2048x2048, .f32⟩ : BufTy).Contents (Elt F) → (⟨S2048x2048, .f32⟩ : BufTy).Contents (Elt F)),
    StableHlo.binary main_v583 main_v589 main_v590 (mulf : (⟨S2048x2048, .f32⟩ : BufTy).Contents (Elt F) → (⟨S2048x2048, .f32⟩ : BufTy).Contents (Elt F) → (⟨S2048x2048, .f32⟩ : BufTy).Contents (Elt F)),
    StableHlo.nullary main_cst_123 (constant S_ .f32 0x00000000#32),
    StableHlo.binary main_v590 main_cst_123 main_v591 ((fun x v => Host.reduceAdd x v reducesTo_S2048x2048_S2048_d1 h_S_) : (⟨S2048x2048, .f32⟩ : BufTy).Contents (Elt F) → (⟨S_, .f32⟩ : BufTy).Contents (Elt F) → (⟨S2048, .f32⟩ : BufTy).Contents (Elt F)),
    StableHlo.unary main_v591 main_v592 (broadcastInDim S2048x1 ![0] bcast_S2048_S2048x1_0 : (⟨S2048, .f32⟩ : BufTy).Contents (Elt F) → (⟨S2048x1, .f32⟩ : BufTy).Contents (Elt F)),
    StableHlo.unary main_v592 main_v593 (broadcastInDim S2048x2048 ![0, 1] bcast_S2048x1_S2048x2048_0_1 : (⟨S2048x1, .f32⟩ : BufTy).Contents (Elt F) → (⟨S2048x2048, .f32⟩ : BufTy).Contents (Elt F)) ]

set_option maxRecDepth 16384 in
set_option maxHeartbeats 4000000 in
/-- The window is that line: the called functions unfold at their calls and sequencing re-associates. -/
theorem main_part11_eq (c : Dev nD) : main_part11 (F := F) c = StableHlo.seq ops_part11 := rfl

set_option maxRecDepth 16384 in
set_option maxHeartbeats 4000000 in
/-- Every operation of the window is good; the result's index is compared by computation. -/
theorem ops_part11_good : (ops_part11 : List (HloOp τ sig (Elt F))).Forall (Good 12) :=
  ⟨binary_good (h := by decide) .., nullary_good (h := by decide) .., unary_good (h := by decide) .., binary_good (h := by decide) ..,
    unary_good (h := by decide) .., unary_good (h := by decide) .., binary_good (h := by decide) .., unary_good (h := by decide) ..,
    nullary_good (h := by decide) .., binary_good (h := by decide) .., unary_good (h := by decide) .., unary_good (h := by decide) ..,
    binary_good (h := by decide) .., unary_good (h := by decide) .., binary_good (h := by decide) .., nullary_good (h := by decide) ..,
    unary_good (h := by decide) .., binary_good (h := by decide) .., nullary_good (h := by decide) .., unary_good (h := by decide) ..,
    binary_good (h := by decide) .., nullary_good (h := by decide) .., unary_good (h := by decide) .., unary_good (h := by decide) ..,
    ternary_good (h := by decide) .., unary_good (h := by decide) .., nullary_good (h := by decide) .., unary_good (h := by decide) ..,
    binary_good (h := by decide) .., ternary_good (h := by decide) .., unary_good (h := by decide) .., unary_good (h := by decide) ..,
    unary_good (h := by decide) .., reshape_good (h := by decide) .., binary_good (h := by decide) .., nullary_good (h := by decide) ..,
    binary_good (h := by decide) .., unary_good (h := by decide) .., unary_good (h := by decide) .., binary_good (h := by decide) ..,
    unary_good (h := by decide) .., unary_good (h := by decide) .., unary_good (h := by decide) .., unary_good (h := by decide) ..,
    binary_good (h := by decide) .., binary_good (h := by decide) .., nullary_good (h := by decide) .., nullary_good (h := by decide) ..,
    nullary_good (h := by decide) .., unary_good (h := by decide) .., binary_good (h := by decide) .., binary_good (h := by decide) ..,
    unary_good (h := by decide) .., nullary_good (h := by decide) .., unary_good (h := by decide) .., binary_good (h := by decide) ..,
    nullary_good (h := by decide) .., unary_good (h := by decide) .., binary_good (h := by decide) .., nullary_good (h := by decide) ..,
    unary_good (h := by decide) .., unary_good (h := by decide) .., ternary_good (h := by decide) .., binary_good (h := by decide) ..,
    unary_good (h := by decide) .., binary_good (h := by decide) .., nullary_good (h := by decide) .., unary_good (h := by decide) ..,
    binary_good (h := by decide) .., unary_good (h := by decide) .., binary_good (h := by decide) .., binary_good (h := by decide) ..,
    nullary_good (h := by decide) .., binary_good (h := by decide) .., unary_good (h := by decide) .., unary_good (h := by decide) ..⟩

end Cert.ReferenceIdeal.Hand

end
-- ==== Proof.Ref.W12.lean ====
import proofs.«146970_j35948876268088_1_alg».proof.ReferenceIdeal.P03
import proofs.«146970_j35948876268088_1_alg».proof.Proof.Ref.Keep

noncomputable section

namespace Cert.ReferenceIdeal.Hand

open Cert.ReferenceIdeal Idealize.ShloMosaic Idealize.ShloMosaic.TcCoe Idealize.SL.Sem Idealize.ShloMosaic.StableHlo

variable {F : FTy → Type} [FloatOps F]

variable [Facts]
open Facts₀ Facts

set_option maxHeartbeats 4000000 in
/-- The operations of window 12, in order; a called function's operations stand in its call's place. -/
abbrev ops_part12 : List (HloOp τ sig (Elt F)) :=
  [ StableHlo.binary main_v26 main_v593 main_v594 (mulf : (⟨S2048x2048, .f32⟩ : BufTy).Contents (Elt F) → (⟨S2048x2048, .f32⟩ : BufTy).Contents (Elt F) → (⟨S2048x2048, .f32⟩ : BufTy).Contents (Elt F)),
    StableHlo.nullary main_cst_124 (constant S_ .f32 0x00000000#32),
    StableHlo.binary main_v594 main_cst_124 main_v595 ((fun x v => Host.reduceAdd x v reducesTo_S2048x2048_S2048_d0 h_S_) : (⟨S2048x2048, .f32⟩ : BufTy).Contents (Elt F) → (⟨S_, .f32⟩ : BufTy).Contents (Elt F) → (⟨S2048, .f32⟩ : BufTy).Contents (Elt F)),
    StableHlo.unary main_v595 main_v596 (broadcastInDim S2048x1 ![0] bcast_S2048_S2048x1_0 : (⟨S2048, .f32⟩ : BufTy).Contents (Elt F) → (⟨S2048x1, .f32⟩ : BufTy).Contents (Elt F)),
    StableHlo.binary main_v48 main_v560 main_v597 ((fun l r => Host.dotGeneral dot_S2048x256_S256x8_S2048x8_1_0_0_1_n_n none l r) : (⟨S2048x256, .f32⟩ : BufTy).Contents (Elt F) → (⟨S256x8, .f32⟩ : BufTy).Contents (Elt F) → (⟨S2048x8, .f32⟩ : BufTy).Contents (Elt F)),
    StableHlo.binary main_v48 main_v560 main_v598 ((fun l r => Host.dotGeneral dot_S2048x256_S256x8_S2048x8_1_0_0_1_n_n none l r) : (⟨S2048x256, .f32⟩ : BufTy).Contents (Elt F) → (⟨S256x8, .f32⟩ : BufTy).Contents (Elt F) → (⟨S2048x8, .f32⟩ : BufTy).Contents (Elt F)),
    StableHlo.binary main_v41 main_v560 main_v599 ((fun l r => Host.dotGeneral dot_S2048x256_S256x8_S2048x8_1_0_0_1_n_n none l r) : (⟨S2048x256, .f32⟩ : BufTy).Contents (Elt F) → (⟨S256x8, .f32⟩ : BufTy).Contents (Elt F) → (⟨S2048x8, .f32⟩ : BufTy).Contents (Elt F)),
    StableHlo.unary main_v557 main_v600 ((extractStridedSlice S8x1 ![0, 0] · slices_S16x1_S8x1_0_0) : (⟨S16x1, .f32⟩ : BufTy).Contents (Elt F) → (⟨S8x1, .f32⟩ : BufTy).Contents (Elt F)),
    StableHlo.binary main_v598 main_v600 main_v601 ((fun l r => Host.dotGeneral dot_S2048x8_S8x1_S2048x1_1_0_0_1_n_n none l r) : (⟨S2048x8, .f32⟩ : BufTy).Contents (Elt F) → (⟨S8x1, .f32⟩ : BufTy).Contents (Elt F) → (⟨S2048x1, .f32⟩ : BufTy).Contents (Elt F)),
    StableHlo.unary main_v557 main_v602 ((extractStridedSlice S8x1 ![8, 0] · slices_S16x1_S8x1_8_0) : (⟨S16x1, .f32⟩ : BufTy).Contents (Elt F) → (⟨S8x1, .f32⟩ : BufTy).Contents (Elt F)),
    StableHlo.binary main_v599 main_v602 main_v603 ((fun l r => Host.dotGeneral dot_S2048x8_S8x1_S2048x1_1_0_0_1_n_n none l r) : (⟨S2048x8, .f32⟩ : BufTy).Contents (Elt F) → (⟨S8x1, .f32⟩ : BufTy).Contents (Elt F) → (⟨S2048x1, .f32⟩ : BufTy).Contents (Elt F)),
    StableHlo.unary main_v603 main_v604 ((transpose S1x2048 [1, 0] · transposes_S2048x1_S1x2048_1_0) : (⟨S2048x1, .f32⟩ : BufTy).Contents (Elt F) → (⟨S1x2048, .f32⟩ : BufTy).Contents (Elt F)),
    StableHlo.unary main_v601 main_v605 (broadcastInDim S2048x2048 ![0, 1] bcast_S2048x1_S2048x2048_0_1 : (⟨S2048x1, .f32⟩ : BufTy).Contents (Elt F) → (⟨S2048x2048, .f32⟩ : BufTy).Contents (Elt F)),
    StableHlo.unary main_v604 main_v606 (broadcastInDim S2048x2048 ![0, 1] bcast_S1x2048_S2048x2048_0_1 : (⟨S1x2048, .f32⟩ : BufTy).Contents (Elt F) → (⟨S2048x2048, .f32⟩ : BufTy).Contents (Elt F)),
    StableHlo.binary main_v605 main_v606 main_v607 (addf : (⟨S2048x2048, .f32⟩ : BufTy).Contents (Elt F) → (⟨S2048x2048, .f32⟩ : BufTy).Contents (Elt F) → (⟨S2048x2048, .f32⟩ : BufTy).Contents (Elt F)),
    StableHlo.nullary main_cst_125 (constant S_ .f32 0x3E4CCCCD#32),
    StableHlo.TRef.nullary main_call22.cst (constant S_ .f32 0x00000000#32),
    StableHlo.TRef.unary main_call22.cst main_call22.v0 (broadcastInDim S2048x2048 ![] bcast_S_S2048x2048),
    StableHlo.TRef.binary (StableHlo.TRef.of (T := ⟨S2048x2048, .f32⟩) main_v607) main_call22.v0 main_call22.v1 (cmpf .oge),
    StableHlo.TRef.unary (StableHlo.TRef.of (T := ⟨S_, .f32⟩) main_cst_125) main_call22.v2 id,
    StableHlo.TRef.unary main_call22.v2 main_call22.v3 (broadcastInDim S2048x2048 ![] bcast_S_S2048x2048),
    StableHlo.TRef.binary main_call22.v3 (StableHlo.TRef.of (T := ⟨S2048x2048, .f32⟩) main_v607) main_call22.v4 mulf,
    StableHlo.TRef.ternary main_call22.v1 (StableHlo.TRef.of (T := ⟨S2048x2048, .f32⟩) main_v607) main_call22.v4 main_call22.call0.v0 select,
    StableHlo.nullary main_cst_126 (constant S_ .f32 0x7F800000#32),
    StableHlo.binary main_v592 main_cst_126 main_v609 ((fun x v => Host.reduce FloatOps.minimumf x v reducesTo_S2048x1_S_d0_1 h_S_) : (⟨S2048x1, .f32⟩ : BufTy).Contents (Elt F) → (⟨S_, .f32⟩ : BufTy).Contents (Elt F) → (⟨S_, .f32⟩ : BufTy).Contents (Elt F)),
    StableHlo.unary main_v609 main_v610 (broadcastInDim S2048x1 ![] bcast_S_S2048x1 : (⟨S_, .f32⟩ : BufTy).Contents (Elt F) → (⟨S2048x1, .f32⟩ : BufTy).Contents (Elt F)),
    StableHlo.binary main_v592 main_v610 main_v611 (subf : (⟨S2048x1, .f32⟩ : BufTy).Contents (Elt F) → (⟨S2048x1, .f32⟩ : BufTy).Contents (Elt F) → (⟨S2048x1, .f32⟩ : BufTy).Contents (Elt F)),
    StableHlo.nullary main_cst_127 (constant S_ .f32 0xFF800000#32),
    StableHlo.binary main_v592 main_cst_127 main_v612 ((fun x v => Host.reduce FloatOps.maximumf x v reducesTo_S2048x1_S_d0_1 h_S_) : (⟨S2048x1, .f32⟩ : BufTy).Contents (Elt F) → (⟨S_, .f32⟩ : BufTy).Contents (Elt F) → (⟨S_, .f32⟩ : BufTy).Contents (Elt F)),
    StableHlo.nullary main_cst_128 (constant S_ .f32 0x7F800000#32),
    StableHlo.binary main_v592 main_cst_128 main_v613 ((fun x v => Host.reduce FloatOps.minimumf x v reducesTo_S2048x1_S_d0_1 h_S_) : (⟨S2048x1, .f32⟩ : BufTy).Contents (Elt F) → (⟨S_, .f32⟩ : BufTy).Contents (Elt F) → (⟨S_, .f32⟩ : BufTy).Contents (Elt F)),
    StableHlo.binary main_v612 main_v613 main_v614 (subf : (⟨S_, .f32⟩ : BufTy).Contents (Elt F) → (⟨S_, .f32⟩ : BufTy).Contents (Elt F) → (⟨S_, .f32⟩ : BufTy).Contents (Elt F)),
    StableHlo.unary main_v614 main_v615 (broadcastInDim S2048x1 ![] bcast_S_S2048x1 : (⟨S_, .f32⟩ : BufTy).Contents (Elt F) → (⟨S2048x1, .f32⟩ : BufTy).Contents (Elt F)),
    StableHlo.binary main_v611 main_v615 main_v616 (Host.divf : (⟨S2048x1, .f32⟩ : BufTy).Contents (Elt F) → (⟨S2048x1, .f32⟩ : BufTy).Contents (Elt F) → (⟨S2048x1, .f32⟩ : BufTy).Contents (Elt F)),
    StableHlo.nullary main_cst_129 (constant S_ .f32 0xFF800000#32),
    StableHlo.binary main_v608 main_cst_129 main_v617 ((fun x v => Host.reduce FloatOps.maximumf x v reducesTo_S2048x2048_S_d0_1 h_S_) : (⟨S2048x2048, .f32⟩ : BufTy).Contents (Elt F) → (⟨S_, .f32⟩ : BufTy).Contents (Elt F) → (⟨S_, .f32⟩ : BufTy).Contents (Elt F)),
    StableHlo.unary main_v617 main_v618 (broadcastInDim S2048x1 ![] bcast_S_S2048x1 : (⟨S_, .f32⟩ : BufTy).Contents (Elt F) → (⟨S2048x1, .f32⟩ : BufTy).Contents (Elt F)),
    StableHlo.binary main_v616 main_v618 main_v619 (mulf : (⟨S2048x1, .f32⟩ : BufTy).Contents (Elt F) → (⟨S2048x1, .f32⟩ : BufTy).Contents (Elt F) → (⟨S2048x1, .f32⟩ : BufTy).Contents (Elt F)),
    StableHlo.nullary main_cst_130 (constant S_ .f32 0x00000000#32),
    StableHlo.unary main_cst_130 main_v620 (broadcastInDim S2048x2048 ![] bcast_S_S2048x2048 : (⟨S_, .f32⟩ : BufTy).Contents (Elt F) → (⟨S2048x2048, .f32⟩ : BufTy).Contents (Elt F)),
    StableHlo.binary main_v26 main_v620 main_v621 (cmpf .ogt : (⟨S2048x2048, .f32⟩ : BufTy).Contents (Elt F) → (⟨S2048x2048, .f32⟩ : BufTy).Contents (Elt F) → (⟨S2048x2048, .i1⟩ : BufTy).Contents (Elt F)),
    StableHlo.unary main_v619 main_v622 (broadcastInDim S2048x2048 ![0, 1] bcast_S2048x1_S2048x2048_0_1 : (⟨S2048x1, .f32⟩ : BufTy).Contents (Elt F) → (⟨S2048x2048, .f32⟩ : BufTy).Contents (Elt F)),
    StableHlo.binary main_v608 main_v622 main_v623 (addf : (⟨S2048x2048, .f32⟩ : BufTy).Contents (Elt F) → (⟨S2048x2048, .f32⟩ : BufTy).Contents (Elt F) → (⟨S2048x2048, .f32⟩ : BufTy).Contents (Elt F)),
    StableHlo.nullary main_cst_131 (constant S_ .f32 0xD368D4A5#32),
    StableHlo.TRef.unary (StableHlo.TRef.of (T := ⟨S_, .f32⟩) main_cst_131) main_call23.v0 id,
    StableHlo.TRef.unary main_call23.v0 main_call23.v1 (broadcastInDim S2048x2048 ![] bcast_S_S2048x2048),
    StableHlo.TRef.ternary (StableHlo.TRef.of (T := ⟨S2048x2048, .i1⟩) main_v621) (StableHlo.TRef.of (T := ⟨S2048x2048, .f32⟩) main_v623) main_call23.v1 main_call23.v2 select,
    StableHlo.nullary main_cst_132 (constant S_ .f32 0xFF800000#32),
    StableHlo.binary main_v624 main_cst_132 main_v625 ((fun x v => Host.reduce FloatOps.maximumf x v reducesTo_S2048x2048_S2048_d1 h_S_) : (⟨S2048x2048, .f32⟩ : BufTy).Contents (Elt F) → (⟨S_, .f32⟩ : BufTy).Contents (Elt F) → (⟨S2048, .f32⟩ : BufTy).Contents (Elt F)),
    StableHlo.nullary main_cst_133 (constant S_ .f32 0xFF800000#32),
    StableHlo.unary main_cst_133 main_v626 (broadcastInDim S2048 ![] bcast_S_S2048 : (⟨S_, .f32⟩ : BufTy).Contents (Elt F) → (⟨S2048, .f32⟩ : BufTy).Contents (Elt F)),
    StableHlo.binary main_v626 main_v625 main_v627 (maximumf : (⟨S2048, .f32⟩ : BufTy).Contents (Elt F) → (⟨S2048, .f32⟩ : BufTy).Contents (Elt F) → (⟨S2048, .f32⟩ : BufTy).Contents (Elt F)),
    StableHlo.unary main_v627 main_v628 (broadcastInDim S2048x1 ![0] bcast_S2048_S2048x1_0 : (⟨S2048, .f32⟩ : BufTy).Contents (Elt F) → (⟨S2048x1, .f32⟩ : BufTy).Contents (Elt F)),
    StableHlo.unary main_v628 main_v629 (broadcastInDim S2048x2048 ![0, 1] bcast_S2048x1_S2048x2048_0_1 : (⟨S2048x1, .f32⟩ : BufTy).Contents (Elt F) → (⟨S2048x2048, .f32⟩ : BufTy).Contents (Elt F)),
    StableHlo.binary main_v624 main_v629 main_v630 (subf : (⟨S2048x2048, .f32⟩ : BufTy).Contents (Elt F) → (⟨S2048x2048, .f32⟩ : BufTy).Contents (Elt F) → (⟨S2048x2048, .f32⟩ : BufTy).Contents (Elt F)),
    StableHlo.unary main_v630 main_v631 (Host.exp : (⟨S2048x2048, .f32⟩ : BufTy).Contents (Elt F) → (⟨S2048x2048, .f32⟩ : BufTy).Contents (Elt F)),
    StableHlo.nullary main_cst_134 (constant S_ .f32 0x00000000#32),
    StableHlo.binary main_v631 main_cst_134 main_v632 ((fun x v => Host.reduceAdd x v reducesTo_S2048x2048_S2048_d1 h_S_) : (⟨S2048x2048, .f32⟩ : BufTy).Contents (Elt F) → (⟨S_, .f32⟩ : BufTy).Contents (Elt F) → (⟨S2048, .f32⟩ : BufTy).Contents (Elt F)),
    StableHlo.unary main_v632 main_v633 (broadcastInDim S2048x1 ![0] bcast_S2048_S2048x1_0 : (⟨S2048, .f32⟩ : BufTy).Contents (Elt F) → (⟨S2048x1, .f32⟩ : BufTy).Contents (Elt F)),
    StableHlo.unary main_v633 main_v634 (broadcastInDim S2048x2048 ![0, 1] bcast_S2048x1_S2048x2048_0_1 : (⟨S2048x1, .f32⟩ : BufTy).Contents (Elt F) → (⟨S2048x2048, .f32⟩ : BufTy).Contents (Elt F)),
    StableHlo.binary main_v631 main_v634 main_v635 (Host.divf : (⟨S2048x2048, .f32⟩ : BufTy).Contents (Elt F) → (⟨S2048x2048, .f32⟩ : BufTy).Contents (Elt F) → (⟨S2048x2048, .f32⟩ : BufTy).Contents (Elt F)),
    StableHlo.unary main_v635 main_v636 ((transpose S2048x2048 [1, 0] · transposes_S2048x2048_S2048x2048_1_0) : (⟨S2048x2048, .f32⟩ : BufTy).Contents (Elt F) → (⟨S2048x2048, .f32⟩ : BufTy).Contents (Elt F)),
    StableHlo.binary main_v636 main_v597 main_v637 ((fun l r => Host.dotGeneral dot_S2048x2048_S2048x8_S2048x8_1_0_0_1_n_n none l r) : (⟨S2048x2048, .f32⟩ : BufTy).Contents (Elt F) → (⟨S2048x8, .f32⟩ : BufTy).Contents (Elt F) → (⟨S2048x8, .f32⟩ : BufTy).Contents (Elt F)),
    StableHlo.TRef.nullary main_call24.cst (constant S_ .f32 0x00000000#32),
    StableHlo.TRef.unary main_call24.cst main_call24.v0 (broadcastInDim S2048x8 ![] bcast_S_S2048x8),
    StableHlo.TRef.binary (StableHlo.TRef.of (T := ⟨S2048x8, .f32⟩) main_v637) main_call24.v0 main_call24.v1 (cmpf .ogt),
    StableHlo.TRef.nullary main_call24.cst_0 (constant S_ .f32 0x00000000#32),
    StableHlo.TRef.unary main_call24.cst_0 main_call24.v2 (broadcastInDim S2048x8 ![] bcast_S_S2048x8),
    StableHlo.TRef.binary (StableHlo.TRef.of (T := ⟨S2048x8, .f32⟩) main_v637) main_call24.v2 main_call24.v3 (cmpf .ogt),
    StableHlo.TRef.nullary main_call24.cst_1 (constant S_ .f32 0x00000000#32),
    StableHlo.TRef.unary main_call24.cst_1 main_call24.call0.v0 id,
    StableHlo.TRef.unary main_call24.call0.v0 main_call24.call0.v1 (broadcastInDim S2048x8 ![] bcast_S_S2048x8),
    StableHlo.TRef.ternary main_call24.v3 main_call24.call0.v1 (StableHlo.TRef.of (T := ⟨S2048x8, .f32⟩) main_v637) main_call24.call0.v2 select,
    StableHlo.TRef.unary main_call24.call0.v2 main_call24.v5 Host.expm1,
    StableHlo.TRef.nullary main_call24.cst_2 (constant S_ .f32 0x3F800000#32),
    StableHlo.TRef.unary main_call24.cst_2 main_call24.v6 (broadcastInDim S2048x8 ![] bcast_S_S2048x8),
    StableHlo.TRef.binary main_call24.v6 main_call24.v5 main_call24.v7 mulf,
    StableHlo.TRef.ternary main_call24.v1 (StableHlo.TRef.of (T := ⟨S2048x8, .f32⟩) main_v637) main_call24.v7 main_call24.call1.v0 select,
    StableHlo.unary main_v26 main_v639 ((transpose S2048x2048 [1, 0] · transposes_S2048x2048_S2048x2048_1_0) : (⟨S2048x2048, .f32⟩ : BufTy).Contents (Elt F) → (⟨S2048x2048, .f32⟩ : BufTy).Contents (Elt F)),
    StableHlo.binary main_v41 main_v560 main_v640 ((fun l r => Host.dotGeneral dot_S2048x256_S256x8_S2048x8_1_0_0_1_n_n none l r) : (⟨S2048x256, .f32⟩ : BufTy).Contents (Elt F) → (⟨S256x8, .f32⟩ : BufTy).Contents (Elt F) → (⟨S2048x8, .f32⟩ : BufTy).Contents (Elt F)),
    StableHlo.binary main_v48 main_v560 main_v641 ((fun l r => Host.dotGeneral dot_S2048x256_S256x8_S2048x8_1_0_0_1_n_n none l r) : (⟨S2048x256, .f32⟩ : BufTy).Contents (Elt F) → (⟨S256x8, .f32⟩ : BufTy).Contents (Elt F) → (⟨S2048x8, .f32⟩ : BufTy).Contents (Elt F)),
    StableHlo.unary main_v558 main_v642 ((extractStridedSlice S8x1 ![0, 0] · slices_S16x1_S8x1_0_0) : (⟨S16x1, .f32⟩ : BufTy).Contents (Elt F) → (⟨S8x1, .f32⟩ : BufTy).Contents (Elt F)) ]

set_option maxRecDepth 16384 in
set_option maxHeartbeats 4000000 in
/-- The window is that line: the called functions unfold at their calls and sequencing re-associates. -/
theorem main_part12_eq (c : Dev nD) : main_part12 (F := F) c = StableHlo.seq ops_part12 := rfl

set_option maxRecDepth 16384 in
set_option maxHeartbeats 4000000 in
/-- Every operation of the window is good; the result's index is compared by computation. -/
theorem ops_part12_good : (ops_part12 : List (HloOp τ sig (Elt F))).Forall (Good 12) :=
  ⟨binary_good (h := by decide) .., nullary_good (h := by decide) .., binary_good (h := by decide) .., unary_good (h := by decide) ..,
    binary_good (h := by decide) .., binary_good (h := by decide) .., binary_good (h := by decide) .., unary_good (h := by decide) ..,
    binary_good (h := by decide) .., unary_good (h := by decide) .., binary_good (h := by decide) .., unary_good (h := by decide) ..,
    unary_good (h := by decide) .., unary_good (h := by decide) .., binary_good (h := by decide) .., nullary_good (h := by decide) ..,
    nullary_good (h := by decide) .., unary_good (h := by decide) .., binary_good (h := by decide) .., unary_good (h := by decide) ..,
    unary_good (h := by decide) .., binary_good (h := by decide) .., ternary_good (h := by decide) .., nullary_good (h := by decide) ..,
    binary_good (h := by decide) .., unary_good (h := by decide) .., binary_good (h := by decide) .., nullary_good (h := by decide) ..,
    binary_good (h := by decide) .., nullary_good (h := by decide) .., binary_good (h := by decide) .., binary_good (h := by decide) ..,
    unary_good (h := by decide) .., binary_good (h := by decide) .., nullary_good (h := by decide) .., binary_good (h := by decide) ..,
    unary_good (h := by decide) .., binary_good (h := by decide) .., nullary_good (h := by decide) .., unary_good (h := by decide) ..,
    binary_good (h := by decide) .., unary_good (h := by decide) .., binary_good (h := by decide) .., nullary_good (h := by decide) ..,
    unary_good (h := by decide) .., unary_good (h := by decide) .., ternary_good (h := by decide) .., nullary_good (h := by decide) ..,
    binary_good (h := by decide) .., nullary_good (h := by decide) .., unary_good (h := by decide) .., binary_good (h := by decide) ..,
    unary_good (h := by decide) .., unary_good (h := by decide) .., binary_good (h := by decide) .., unary_good (h := by decide) ..,
    nullary_good (h := by decide) .., binary_good (h := by decide) .., unary_good (h := by decide) .., unary_good (h := by decide) ..,
    binary_good (h := by decide) .., unary_good (h := by decide) .., binary_good (h := by decide) .., nullary_good (h := by decide) ..,
    unary_good (h := by decide) .., binary_good (h := by decide) .., nullary_good (h := by decide) .., unary_good (h := by decide) ..,
    binary_good (h := by decide) .., nullary_good (h := by decide) .., unary_good (h := by decide) .., unary_good (h := by decide) ..,
    ternary_good (h := by decide) .., unary_good (h := by decide) .., nullary_good (h := by decide) .., unary_good (h := by decide) ..,
    binary_good (h := by decide) .., ternary_good (h := by decide) .., unary_good (h := by decide) .., binary_good (h := by decide) ..,
    binary_good (h := by decide) .., unary_good (h := by decide) ..⟩

end Cert.ReferenceIdeal.Hand

end
-- ==== Proof.Ref.W13.lean ====
import proofs.«146970_j35948876268088_1_alg».proof.ReferenceIdeal.P03
import proofs.«146970_j35948876268088_1_alg».proof.Proof.Ref.Keep

noncomputable section

namespace Cert.ReferenceIdeal.Hand

open Cert.ReferenceIdeal Idealize.ShloMosaic Idealize.ShloMosaic.TcCoe Idealize.SL.Sem Idealize.ShloMosaic.StableHlo

variable {F : FTy → Type} [FloatOps F]

variable [Facts]
open Facts₀ Facts

set_option maxHeartbeats 4000000 in
/-- The operations of window 13, in order; a called function's operations stand in its call's place. -/
abbrev ops_part13 : List (HloOp τ sig (Elt F)) :=
  [ StableHlo.binary main_v640 main_v642 main_v643 ((fun l r => Host.dotGeneral dot_S2048x8_S8x1_S2048x1_1_0_0_1_n_n none l r) : (⟨S2048x8, .f32⟩ : BufTy).Contents (Elt F) → (⟨S8x1, .f32⟩ : BufTy).Contents (Elt F) → (⟨S2048x1, .f32⟩ : BufTy).Contents (Elt F)),
    StableHlo.unary main_v558 main_v644 ((extractStridedSlice S8x1 ![8, 0] · slices_S16x1_S8x1_8_0) : (⟨S16x1, .f32⟩ : BufTy).Contents (Elt F) → (⟨S8x1, .f32⟩ : BufTy).Contents (Elt F)),
    StableHlo.binary main_v641 main_v644 main_v645 ((fun l r => Host.dotGeneral dot_S2048x8_S8x1_S2048x1_1_0_0_1_n_n none l r) : (⟨S2048x8, .f32⟩ : BufTy).Contents (Elt F) → (⟨S8x1, .f32⟩ : BufTy).Contents (Elt F) → (⟨S2048x1, .f32⟩ : BufTy).Contents (Elt F)),
    StableHlo.unary main_v645 main_v646 ((transpose S1x2048 [1, 0] · transposes_S2048x1_S1x2048_1_0) : (⟨S2048x1, .f32⟩ : BufTy).Contents (Elt F) → (⟨S1x2048, .f32⟩ : BufTy).Contents (Elt F)),
    StableHlo.unary main_v643 main_v647 (broadcastInDim S2048x2048 ![0, 1] bcast_S2048x1_S2048x2048_0_1 : (⟨S2048x1, .f32⟩ : BufTy).Contents (Elt F) → (⟨S2048x2048, .f32⟩ : BufTy).Contents (Elt F)),
    StableHlo.unary main_v646 main_v648 (broadcastInDim S2048x2048 ![0, 1] bcast_S1x2048_S2048x2048_0_1 : (⟨S1x2048, .f32⟩ : BufTy).Contents (Elt F) → (⟨S2048x2048, .f32⟩ : BufTy).Contents (Elt F)),
    StableHlo.binary main_v647 main_v648 main_v649 (addf : (⟨S2048x2048, .f32⟩ : BufTy).Contents (Elt F) → (⟨S2048x2048, .f32⟩ : BufTy).Contents (Elt F) → (⟨S2048x2048, .f32⟩ : BufTy).Contents (Elt F)),
    StableHlo.nullary main_cst_135 (constant S_ .f32 0x3E4CCCCD#32),
    StableHlo.TRef.nullary main_call25.cst (constant S_ .f32 0x00000000#32),
    StableHlo.TRef.unary main_call25.cst main_call25.v0 (broadcastInDim S2048x2048 ![] bcast_S_S2048x2048),
    StableHlo.TRef.binary (StableHlo.TRef.of (T := ⟨S2048x2048, .f32⟩) main_v649) main_call25.v0 main_call25.v1 (cmpf .oge),
    StableHlo.TRef.unary (StableHlo.TRef.of (T := ⟨S_, .f32⟩) main_cst_135) main_call25.v2 id,
    StableHlo.TRef.unary main_call25.v2 main_call25.v3 (broadcastInDim S2048x2048 ![] bcast_S_S2048x2048),
    StableHlo.TRef.binary main_call25.v3 (StableHlo.TRef.of (T := ⟨S2048x2048, .f32⟩) main_v649) main_call25.v4 mulf,
    StableHlo.TRef.ternary main_call25.v1 (StableHlo.TRef.of (T := ⟨S2048x2048, .f32⟩) main_v649) main_call25.v4 main_call25.call0.v0 select,
    StableHlo.nullary main_cst_136 (constant S_ .f32 0x7F800000#32),
    StableHlo.binary main_v596 main_cst_136 main_v651 ((fun x v => Host.reduce FloatOps.minimumf x v reducesTo_S2048x1_S_d0_1 h_S_) : (⟨S2048x1, .f32⟩ : BufTy).Contents (Elt F) → (⟨S_, .f32⟩ : BufTy).Contents (Elt F) → (⟨S_, .f32⟩ : BufTy).Contents (Elt F)),
    StableHlo.unary main_v651 main_v652 (broadcastInDim S2048x1 ![] bcast_S_S2048x1 : (⟨S_, .f32⟩ : BufTy).Contents (Elt F) → (⟨S2048x1, .f32⟩ : BufTy).Contents (Elt F)),
    StableHlo.binary main_v596 main_v652 main_v653 (subf : (⟨S2048x1, .f32⟩ : BufTy).Contents (Elt F) → (⟨S2048x1, .f32⟩ : BufTy).Contents (Elt F) → (⟨S2048x1, .f32⟩ : BufTy).Contents (Elt F)),
    StableHlo.nullary main_cst_137 (constant S_ .f32 0xFF800000#32),
    StableHlo.binary main_v596 main_cst_137 main_v654 ((fun x v => Host.reduce FloatOps.maximumf x v reducesTo_S2048x1_S_d0_1 h_S_) : (⟨S2048x1, .f32⟩ : BufTy).Contents (Elt F) → (⟨S_, .f32⟩ : BufTy).Contents (Elt F) → (⟨S_, .f32⟩ : BufTy).Contents (Elt F)),
    StableHlo.nullary main_cst_138 (constant S_ .f32 0x7F800000#32),
    StableHlo.binary main_v596 main_cst_138 main_v655 ((fun x v => Host.reduce FloatOps.minimumf x v reducesTo_S2048x1_S_d0_1 h_S_) : (⟨S2048x1, .f32⟩ : BufTy).Contents (Elt F) → (⟨S_, .f32⟩ : BufTy).Contents (Elt F) → (⟨S_, .f32⟩ : BufTy).Contents (Elt F)),
    StableHlo.binary main_v654 main_v655 main_v656 (subf : (⟨S_, .f32⟩ : BufTy).Contents (Elt F) → (⟨S_, .f32⟩ : BufTy).Contents (Elt F) → (⟨S_, .f32⟩ : BufTy).Contents (Elt F)),
    StableHlo.unary main_v656 main_v657 (broadcastInDim S2048x1 ![] bcast_S_S2048x1 : (⟨S_, .f32⟩ : BufTy).Contents (Elt F) → (⟨S2048x1, .f32⟩ : BufTy).Contents (Elt F)),
    StableHlo.binary main_v653 main_v657 main_v658 (Host.divf : (⟨S2048x1, .f32⟩ : BufTy).Contents (Elt F) → (⟨S2048x1, .f32⟩ : BufTy).Contents (Elt F) → (⟨S2048x1, .f32⟩ : BufTy).Contents (Elt F)),
    StableHlo.nullary main_cst_139 (constant S_ .f32 0xFF800000#32),
    StableHlo.binary main_v650 main_cst_139 main_v659 ((fun x v => Host.reduce FloatOps.maximumf x v reducesTo_S2048x2048_S_d0_1 h_S_) : (⟨S2048x2048, .f32⟩ : BufTy).Contents (Elt F) → (⟨S_, .f32⟩ : BufTy).Contents (Elt F) → (⟨S_, .f32⟩ : BufTy).Contents (Elt F)),
    StableHlo.unary main_v659 main_v660 (broadcastInDim S2048x1 ![] bcast_S_S2048x1 : (⟨S_, .f32⟩ : BufTy).Contents (Elt F) → (⟨S2048x1, .f32⟩ : BufTy).Contents (Elt F)),
    StableHlo.binary main_v658 main_v660 main_v661 (mulf : (⟨S2048x1, .f32⟩ : BufTy).Contents (Elt F) → (⟨S2048x1, .f32⟩ : BufTy).Contents (Elt F) → (⟨S2048x1, .f32⟩ : BufTy).Contents (Elt F)),
    StableHlo.nullary main_cst_140 (constant S_ .f32 0x00000000#32),
    StableHlo.unary main_cst_140 main_v662 (broadcastInDim S2048x2048 ![] bcast_S_S2048x2048 : (⟨S_, .f32⟩ : BufTy).Contents (Elt F) → (⟨S2048x2048, .f32⟩ : BufTy).Contents (Elt F)),
    StableHlo.binary main_v639 main_v662 main_v663 (cmpf .ogt : (⟨S2048x2048, .f32⟩ : BufTy).Contents (Elt F) → (⟨S2048x2048, .f32⟩ : BufTy).Contents (Elt F) → (⟨S2048x2048, .i1⟩ : BufTy).Contents (Elt F)),
    StableHlo.unary main_v661 main_v664 (broadcastInDim S2048x2048 ![0, 1] bcast_S2048x1_S2048x2048_0_1 : (⟨S2048x1, .f32⟩ : BufTy).Contents (Elt F) → (⟨S2048x2048, .f32⟩ : BufTy).Contents (Elt F)),
    StableHlo.binary main_v650 main_v664 main_v665 (addf : (⟨S2048x2048, .f32⟩ : BufTy).Contents (Elt F) → (⟨S2048x2048, .f32⟩ : BufTy).Contents (Elt F) → (⟨S2048x2048, .f32⟩ : BufTy).Contents (Elt F)),
    StableHlo.nullary main_cst_141 (constant S_ .f32 0xD368D4A5#32),
    StableHlo.TRef.unary (StableHlo.TRef.of (T := ⟨S_, .f32⟩) main_cst_141) main_call26.v0 id,
    StableHlo.TRef.unary main_call26.v0 main_call26.v1 (broadcastInDim S2048x2048 ![] bcast_S_S2048x2048),
    StableHlo.TRef.ternary (StableHlo.TRef.of (T := ⟨S2048x2048, .i1⟩) main_v663) (StableHlo.TRef.of (T := ⟨S2048x2048, .f32⟩) main_v665) main_call26.v1 main_call26.v2 select,
    StableHlo.nullary main_cst_142 (constant S_ .f32 0xFF800000#32),
    StableHlo.binary main_v666 main_cst_142 main_v667 ((fun x v => Host.reduce FloatOps.maximumf x v reducesTo_S2048x2048_S2048_d1 h_S_) : (⟨S2048x2048, .f32⟩ : BufTy).Contents (Elt F) → (⟨S_, .f32⟩ : BufTy).Contents (Elt F) → (⟨S2048, .f32⟩ : BufTy).Contents (Elt F)),
    StableHlo.nullary main_cst_143 (constant S_ .f32 0xFF800000#32),
    StableHlo.unary main_cst_143 main_v668 (broadcastInDim S2048 ![] bcast_S_S2048 : (⟨S_, .f32⟩ : BufTy).Contents (Elt F) → (⟨S2048, .f32⟩ : BufTy).Contents (Elt F)),
    StableHlo.binary main_v668 main_v667 main_v669 (maximumf : (⟨S2048, .f32⟩ : BufTy).Contents (Elt F) → (⟨S2048, .f32⟩ : BufTy).Contents (Elt F) → (⟨S2048, .f32⟩ : BufTy).Contents (Elt F)),
    StableHlo.unary main_v669 main_v670 (broadcastInDim S2048x1 ![0] bcast_S2048_S2048x1_0 : (⟨S2048, .f32⟩ : BufTy).Contents (Elt F) → (⟨S2048x1, .f32⟩ : BufTy).Contents (Elt F)),
    StableHlo.unary main_v670 main_v671 (broadcastInDim S2048x2048 ![0, 1] bcast_S2048x1_S2048x2048_0_1 : (⟨S2048x1, .f32⟩ : BufTy).Contents (Elt F) → (⟨S2048x2048, .f32⟩ : BufTy).Contents (Elt F)),
    StableHlo.binary main_v666 main_v671 main_v672 (subf : (⟨S2048x2048, .f32⟩ : BufTy).Contents (Elt F) → (⟨S2048x2048, .f32⟩ : BufTy).Contents (Elt F) → (⟨S2048x2048, .f32⟩ : BufTy).Contents (Elt F)),
    StableHlo.unary main_v672 main_v673 (Host.exp : (⟨S2048x2048, .f32⟩ : BufTy).Contents (Elt F) → (⟨S2048x2048, .f32⟩ : BufTy).Contents (Elt F)),
    StableHlo.nullary main_cst_144 (constant S_ .f32 0x00000000#32),
    StableHlo.binary main_v673 main_cst_144 main_v674 ((fun x v => Host.reduceAdd x v reducesTo_S2048x2048_S2048_d1 h_S_) : (⟨S2048x2048, .f32⟩ : BufTy).Contents (Elt F) → (⟨S_, .f32⟩ : BufTy).Contents (Elt F) → (⟨S2048, .f32⟩ : BufTy).Contents (Elt F)),
    StableHlo.unary main_v674 main_v675 (broadcastInDim S2048x1 ![0] bcast_S2048_S2048x1_0 : (⟨S2048, .f32⟩ : BufTy).Contents (Elt F) → (⟨S2048x1, .f32⟩ : BufTy).Contents (Elt F)),
    StableHlo.unary main_v675 main_v676 (broadcastInDim S2048x2048 ![0, 1] bcast_S2048x1_S2048x2048_0_1 : (⟨S2048x1, .f32⟩ : BufTy).Contents (Elt F) → (⟨S2048x2048, .f32⟩ : BufTy).Contents (Elt F)),
    StableHlo.binary main_v673 main_v676 main_v677 (Host.divf : (⟨S2048x2048, .f32⟩ : BufTy).Contents (Elt F) → (⟨S2048x2048, .f32⟩ : BufTy).Contents (Elt F) → (⟨S2048x2048, .f32⟩ : BufTy).Contents (Elt F)),
    StableHlo.unary main_v677 main_v678 ((transpose S2048x2048 [1, 0] · transposes_S2048x2048_S2048x2048_1_0) : (⟨S2048x2048, .f32⟩ : BufTy).Contents (Elt F) → (⟨S2048x2048, .f32⟩ : BufTy).Contents (Elt F)),
    StableHlo.binary main_v678 main_v638 main_v679 ((fun l r => Host.dotGeneral dot_S2048x2048_S2048x8_S2048x8_1_0_0_1_n_n none l r) : (⟨S2048x2048, .f32⟩ : BufTy).Contents (Elt F) → (⟨S2048x8, .f32⟩ : BufTy).Contents (Elt F) → (⟨S2048x8, .f32⟩ : BufTy).Contents (Elt F)),
    StableHlo.TRef.nullary main_call27.cst (constant S_ .f32 0x00000000#32),
    StableHlo.TRef.unary main_call27.cst main_call27.v0 (broadcastInDim S2048x8 ![] bcast_S_S2048x8),
    StableHlo.TRef.binary (StableHlo.TRef.of (T := ⟨S2048x8, .f32⟩) main_v679) main_call27.v0 main_call27.v1 (cmpf .ogt),
    StableHlo.TRef.nullary main_call27.cst_0 (constant S_ .f32 0x00000000#32),
    StableHlo.TRef.unary main_call27.cst_0 main_call27.v2 (broadcastInDim S2048x8 ![] bcast_S_S2048x8),
    StableHlo.TRef.binary (StableHlo.TRef.of (T := ⟨S2048x8, .f32⟩) main_v679) main_call27.v2 main_call27.v3 (cmpf .ogt),
    StableHlo.TRef.nullary main_call27.cst_1 (constant S_ .f32 0x00000000#32),
    StableHlo.TRef.unary main_call27.cst_1 main_call27.call0.v0 id,
    StableHlo.TRef.unary main_call27.call0.v0 main_call27.call0.v1 (broadcastInDim S2048x8 ![] bcast_S_S2048x8),
    StableHlo.TRef.ternary main_call27.v3 main_call27.call0.v1 (StableHlo.TRef.of (T := ⟨S2048x8, .f32⟩) main_v679) main_call27.call0.v2 select,
    StableHlo.TRef.unary main_call27.call0.v2 main_call27.v5 Host.expm1,
    StableHlo.TRef.nullary main_call27.cst_2 (constant S_ .f32 0x3F800000#32),
    StableHlo.TRef.unary main_call27.cst_2 main_call27.v6 (broadcastInDim S2048x8 ![] bcast_S_S2048x8),
    StableHlo.TRef.binary main_call27.v6 main_call27.v5 main_call27.v7 mulf,
    StableHlo.TRef.ternary main_call27.v1 (StableHlo.TRef.of (T := ⟨S2048x8, .f32⟩) main_v679) main_call27.v7 main_call27.call1.v0 select,
    StableHlo.nary ![main_v308, main_v432, main_v556, main_v680] main_v681 (fun u => concatenate S2048x32 1 [⟨S2048x8, u 0⟩, ⟨S2048x8, u 1⟩, ⟨S2048x8, u 2⟩, ⟨S2048x8, u 3⟩] concatenates_S2048x8_S2048x8_S2048x8_S2048x8_S2048x32_d1),
    StableHlo.unary main_arg6 main_v682 ((extractStridedSlice S1x16x16 ![0, 0, 0] · slices_S3x16x16_S1x16x16_0_0_0) : (⟨S3x16x16, .f32⟩ : BufTy).Contents (Elt F) → (⟨S1x16x16, .f32⟩ : BufTy).Contents (Elt F)),
    StableHlo.reshape main_v682 main_v683 rfl shapeCasts_S1x16x16_S16x16,
    StableHlo.binary main_v683 main_v184 main_v684 ((fun l r => Host.dotGeneral dot_S16x16_S16x8_S16x8_1_0_0_1_n_n none l r) : (⟨S16x16, .f32⟩ : BufTy).Contents (Elt F) → (⟨S16x8, .f32⟩ : BufTy).Contents (Elt F) → (⟨S16x8, .f32⟩ : BufTy).Contents (Elt F)),
    StableHlo.unary main_arg7 main_v685 ((extractStridedSlice S1x16x16 ![0, 0, 0] · slices_S3x16x16_S1x16x16_0_0_0) : (⟨S3x16x16, .f32⟩ : BufTy).Contents (Elt F) → (⟨S1x16x16, .f32⟩ : BufTy).Contents (Elt F)),
    StableHlo.reshape main_v685 main_v686 rfl shapeCasts_S1x16x16_S16x16,
    StableHlo.binary main_v686 main_v184 main_v687 ((fun l r => Host.dotGeneral dot_S16x16_S16x8_S16x8_1_0_0_1_n_n none l r) : (⟨S16x16, .f32⟩ : BufTy).Contents (Elt F) → (⟨S16x8, .f32⟩ : BufTy).Contents (Elt F) → (⟨S16x8, .f32⟩ : BufTy).Contents (Elt F)),
    StableHlo.binary main_v684 main_v687 main_v688 (addf : (⟨S16x8, .f32⟩ : BufTy).Contents (Elt F) → (⟨S16x8, .f32⟩ : BufTy).Contents (Elt F) → (⟨S16x8, .f32⟩ : BufTy).Contents (Elt F)),
    StableHlo.unary main_v688 main_v689 (Host.negf : (⟨S16x8, .f32⟩ : BufTy).Contents (Elt F) → (⟨S16x8, .f32⟩ : BufTy).Contents (Elt F)),
    StableHlo.unary main_v689 main_v690 (Host.exp : (⟨S16x8, .f32⟩ : BufTy).Contents (Elt F) → (⟨S16x8, .f32⟩ : BufTy).Contents (Elt F)),
    StableHlo.nullary main_cst_145 (constant S_ .f32 0x3F800000#32),
    StableHlo.unary main_cst_145 main_v691 (broadcastInDim S16x8 ![] bcast_S_S16x8 : (⟨S_, .f32⟩ : BufTy).Contents (Elt F) → (⟨S16x8, .f32⟩ : BufTy).Contents (Elt F)) ]

set_option maxRecDepth 16384 in
set_option maxHeartbeats 4000000 in
/-- The window is that line: the called functions unfold at their calls and sequencing re-associates. -/
theorem main_part13_eq (c : Dev nD) : main_part13 (F := F) c = StableHlo.seq ops_part13 := rfl

set_option maxRecDepth 16384 in
set_option maxHeartbeats 4000000 in
/-- Every operation of the window is good; the result's index is compared by computation. -/
theorem ops_part13_good : (ops_part13 : List (HloOp τ sig (Elt F))).Forall (Good 12) :=
  ⟨binary_good (h := by decide) .., unary_good (h := by decide) .., binary_good (h := by decide) .., unary_good (h := by decide) ..,
    unary_good (h := by decide) .., unary_good (h := by decide) .., binary_good (h := by decide) .., nullary_good (h := by decide) ..,
    nullary_good (h := by decide) .., unary_good (h := by decide) .., binary_good (h := by decide) .., unary_good (h := by decide) ..,
    unary_good (h := by decide) .., binary_good (h := by decide) .., ternary_good (h := by decide) .., nullary_good (h := by decide) ..,
    binary_good (h := by decide) .., unary_good (h := by decide) .., binary_good (h := by decide) .., nullary_good (h := by decide) ..,
    binary_good (h := by decide) .., nullary_good (h := by decide) .., binary_good (h := by decide) .., binary_good (h := by decide) ..,
    unary_good (h := by decide) .., binary_good (h := by decide) .., nullary_good (h := by decide) .., binary_good (h := by decide) ..,
    unary_good (h := by decide) .., binary_good (h := by decide) .., nullary_good (h := by decide) .., unary_good (h := by decide) ..,
    binary_good (h := by decide) .., unary_good (h := by decide) .., binary_good (h := by decide) .., nullary_good (h := by decide) ..,
    unary_good (h := by decide) .., unary_good (h := by decide) .., ternary_good (h := by decide) .., nullary_good (h := by decide) ..,
    binary_good (h := by decide) .., nullary_good (h := by decide) .., unary_good (h := by decide) .., binary_good (h := by decide) ..,
    unary_good (h := by decide) .., unary_good (h := by decide) .., binary_good (h := by decide) .., unary_good (h := by decide) ..,
    nullary_good (h := by decide) .., binary_good (h := by decide) .., unary_good (h := by decide) .., unary_good (h := by decide) ..,
    binary_good (h := by decide) .., unary_good (h := by decide) .., binary_good (h := by decide) .., nullary_good (h := by decide) ..,
    unary_good (h := by decide) .., binary_good (h := by decide) .., nullary_good (h := by decide) .., unary_good (h := by decide) ..,
    binary_good (h := by decide) .., nullary_good (h := by decide) .., unary_good (h := by decide) .., unary_good (h := by decide) ..,
    ternary_good (h := by decide) .., unary_good (h := by decide) .., nullary_good (h := by decide) .., unary_good (h := by decide) ..,
    binary_good (h := by decide) .., ternary_good (h := by decide) .., nary_good (h := by decide) .., unary_good (h := by decide) ..,
    reshape_good (h := by decide) .., binary_good (h := by decide) .., unary_good (h := by decide) .., reshape_good (h := by decide) ..,
    binary_good (h := by decide) .., binary_good (h := by decide) .., unary_good (h := by decide) .., unary_good (h := by decide) ..,
    nullary_good (h := by decide) .., unary_good (h := by decide) ..⟩

end Cert.ReferenceIdeal.Hand

end
-- ==== Proof.Ref.W14.lean ====
import proofs.«146970_j35948876268088_1_alg».proof.ReferenceIdeal.P03
import proofs.«146970_j35948876268088_1_alg».proof.Proof.Ref.Keep

noncomputable section

namespace Cert.ReferenceIdeal.Hand

open Cert.ReferenceIdeal Idealize.ShloMosaic Idealize.ShloMosaic.TcCoe Idealize.SL.Sem Idealize.ShloMosaic.StableHlo

variable {F : FTy → Type} [FloatOps F]

variable [Facts]
open Facts₀ Facts

set_option maxHeartbeats 4000000 in
/-- The operations of window 14, in order; a called function's operations stand in its call's place. -/
abbrev ops_part14 : List (HloOp τ sig (Elt F)) :=
  [ StableHlo.binary main_v691 main_v690 main_v692 (addf : (⟨S16x8, .f32⟩ : BufTy).Contents (Elt F) → (⟨S16x8, .f32⟩ : BufTy).Contents (Elt F) → (⟨S16x8, .f32⟩ : BufTy).Contents (Elt F)),
    StableHlo.nullary main_cst_146 (constant S_ .f32 0x3F800000#32),
    StableHlo.unary main_cst_146 main_v693 (broadcastInDim S16x8 ![] bcast_S_S16x8 : (⟨S_, .f32⟩ : BufTy).Contents (Elt F) → (⟨S16x8, .f32⟩ : BufTy).Contents (Elt F)),
    StableHlo.binary main_v693 main_v692 main_v694 (Host.divf : (⟨S16x8, .f32⟩ : BufTy).Contents (Elt F) → (⟨S16x8, .f32⟩ : BufTy).Contents (Elt F) → (⟨S16x8, .f32⟩ : BufTy).Contents (Elt F)),
    StableHlo.unary main_arg6 main_v695 ((extractStridedSlice S1x16x16 ![1, 0, 0] · slices_S3x16x16_S1x16x16_1_0_0) : (⟨S3x16x16, .f32⟩ : BufTy).Contents (Elt F) → (⟨S1x16x16, .f32⟩ : BufTy).Contents (Elt F)),
    StableHlo.reshape main_v695 main_v696 rfl shapeCasts_S1x16x16_S16x16,
    StableHlo.binary main_v696 main_v184 main_v697 ((fun l r => Host.dotGeneral dot_S16x16_S16x8_S16x8_1_0_0_1_n_n none l r) : (⟨S16x16, .f32⟩ : BufTy).Contents (Elt F) → (⟨S16x8, .f32⟩ : BufTy).Contents (Elt F) → (⟨S16x8, .f32⟩ : BufTy).Contents (Elt F)),
    StableHlo.unary main_arg7 main_v698 ((extractStridedSlice S1x16x16 ![1, 0, 0] · slices_S3x16x16_S1x16x16_1_0_0) : (⟨S3x16x16, .f32⟩ : BufTy).Contents (Elt F) → (⟨S1x16x16, .f32⟩ : BufTy).Contents (Elt F)),
    StableHlo.reshape main_v698 main_v699 rfl shapeCasts_S1x16x16_S16x16,
    StableHlo.binary main_v699 main_v184 main_v700 ((fun l r => Host.dotGeneral dot_S16x16_S16x8_S16x8_1_0_0_1_n_n none l r) : (⟨S16x16, .f32⟩ : BufTy).Contents (Elt F) → (⟨S16x8, .f32⟩ : BufTy).Contents (Elt F) → (⟨S16x8, .f32⟩ : BufTy).Contents (Elt F)),
    StableHlo.binary main_v697 main_v700 main_v701 (addf : (⟨S16x8, .f32⟩ : BufTy).Contents (Elt F) → (⟨S16x8, .f32⟩ : BufTy).Contents (Elt F) → (⟨S16x8, .f32⟩ : BufTy).Contents (Elt F)),
    StableHlo.unary main_v701 main_v702 (Host.negf : (⟨S16x8, .f32⟩ : BufTy).Contents (Elt F) → (⟨S16x8, .f32⟩ : BufTy).Contents (Elt F)),
    StableHlo.unary main_v702 main_v703 (Host.exp : (⟨S16x8, .f32⟩ : BufTy).Contents (Elt F) → (⟨S16x8, .f32⟩ : BufTy).Contents (Elt F)),
    StableHlo.nullary main_cst_147 (constant S_ .f32 0x3F800000#32),
    StableHlo.unary main_cst_147 main_v704 (broadcastInDim S16x8 ![] bcast_S_S16x8 : (⟨S_, .f32⟩ : BufTy).Contents (Elt F) → (⟨S16x8, .f32⟩ : BufTy).Contents (Elt F)),
    StableHlo.binary main_v704 main_v703 main_v705 (addf : (⟨S16x8, .f32⟩ : BufTy).Contents (Elt F) → (⟨S16x8, .f32⟩ : BufTy).Contents (Elt F) → (⟨S16x8, .f32⟩ : BufTy).Contents (Elt F)),
    StableHlo.nullary main_cst_148 (constant S_ .f32 0x3F800000#32),
    StableHlo.unary main_cst_148 main_v706 (broadcastInDim S16x8 ![] bcast_S_S16x8 : (⟨S_, .f32⟩ : BufTy).Contents (Elt F) → (⟨S16x8, .f32⟩ : BufTy).Contents (Elt F)),
    StableHlo.binary main_v706 main_v705 main_v707 (Host.divf : (⟨S16x8, .f32⟩ : BufTy).Contents (Elt F) → (⟨S16x8, .f32⟩ : BufTy).Contents (Elt F) → (⟨S16x8, .f32⟩ : BufTy).Contents (Elt F)),
    StableHlo.unary main_arg6 main_v708 ((extractStridedSlice S1x16x16 ![2, 0, 0] · slices_S3x16x16_S1x16x16_2_0_0) : (⟨S3x16x16, .f32⟩ : BufTy).Contents (Elt F) → (⟨S1x16x16, .f32⟩ : BufTy).Contents (Elt F)),
    StableHlo.reshape main_v708 main_v709 rfl shapeCasts_S1x16x16_S16x16,
    StableHlo.binary main_v709 main_v184 main_v710 ((fun l r => Host.dotGeneral dot_S16x16_S16x8_S16x8_1_0_0_1_n_n none l r) : (⟨S16x16, .f32⟩ : BufTy).Contents (Elt F) → (⟨S16x8, .f32⟩ : BufTy).Contents (Elt F) → (⟨S16x8, .f32⟩ : BufTy).Contents (Elt F)),
    StableHlo.unary main_arg7 main_v711 ((extractStridedSlice S1x16x16 ![2, 0, 0] · slices_S3x16x16_S1x16x16_2_0_0) : (⟨S3x16x16, .f32⟩ : BufTy).Contents (Elt F) → (⟨S1x16x16, .f32⟩ : BufTy).Contents (Elt F)),
    StableHlo.reshape main_v711 main_v712 rfl shapeCasts_S1x16x16_S16x16,
    StableHlo.binary main_v707 main_v184 main_v713 (mulf : (⟨S16x8, .f32⟩ : BufTy).Contents (Elt F) → (⟨S16x8, .f32⟩ : BufTy).Contents (Elt F) → (⟨S16x8, .f32⟩ : BufTy).Contents (Elt F)),
    StableHlo.binary main_v712 main_v713 main_v714 ((fun l r => Host.dotGeneral dot_S16x16_S16x8_S16x8_1_0_0_1_n_n none l r) : (⟨S16x16, .f32⟩ : BufTy).Contents (Elt F) → (⟨S16x8, .f32⟩ : BufTy).Contents (Elt F) → (⟨S16x8, .f32⟩ : BufTy).Contents (Elt F)),
    StableHlo.binary main_v710 main_v714 main_v715 (addf : (⟨S16x8, .f32⟩ : BufTy).Contents (Elt F) → (⟨S16x8, .f32⟩ : BufTy).Contents (Elt F) → (⟨S16x8, .f32⟩ : BufTy).Contents (Elt F)),
    StableHlo.unary main_v715 main_v716 (Host.tanh : (⟨S16x8, .f32⟩ : BufTy).Contents (Elt F) → (⟨S16x8, .f32⟩ : BufTy).Contents (Elt F)),
    StableHlo.nullary main_cst_149 (constant S_ .f32 0x3F800000#32),
    StableHlo.unary main_cst_149 main_v717 (broadcastInDim S16x8 ![] bcast_S_S16x8 : (⟨S_, .f32⟩ : BufTy).Contents (Elt F) → (⟨S16x8, .f32⟩ : BufTy).Contents (Elt F)),
    StableHlo.binary main_v717 main_v694 main_v718 (subf : (⟨S16x8, .f32⟩ : BufTy).Contents (Elt F) → (⟨S16x8, .f32⟩ : BufTy).Contents (Elt F) → (⟨S16x8, .f32⟩ : BufTy).Contents (Elt F)),
    StableHlo.binary main_v718 main_v184 main_v719 (mulf : (⟨S16x8, .f32⟩ : BufTy).Contents (Elt F) → (⟨S16x8, .f32⟩ : BufTy).Contents (Elt F) → (⟨S16x8, .f32⟩ : BufTy).Contents (Elt F)),
    StableHlo.binary main_v694 main_v716 main_v720 (mulf : (⟨S16x8, .f32⟩ : BufTy).Contents (Elt F) → (⟨S16x8, .f32⟩ : BufTy).Contents (Elt F) → (⟨S16x8, .f32⟩ : BufTy).Contents (Elt F)),
    StableHlo.binary main_v719 main_v720 main_v721 (addf : (⟨S16x8, .f32⟩ : BufTy).Contents (Elt F) → (⟨S16x8, .f32⟩ : BufTy).Contents (Elt F) → (⟨S16x8, .f32⟩ : BufTy).Contents (Elt F)),
    StableHlo.unary main_v721 main_v722 ((extractStridedSlice S16x1 ![0, 0] · slices_S16x8_S16x1_0_0) : (⟨S16x8, .f32⟩ : BufTy).Contents (Elt F) → (⟨S16x1, .f32⟩ : BufTy).Contents (Elt F)),
    StableHlo.unary main_v721 main_v723 ((extractStridedSlice S16x1 ![0, 4] · slices_S16x8_S16x1_0_4) : (⟨S16x8, .f32⟩ : BufTy).Contents (Elt F) → (⟨S16x1, .f32⟩ : BufTy).Contents (Elt F)),
    StableHlo.unary main_arg4 main_v724 ((extractStridedSlice S1x256x8 ![0, 0, 0] · slices_S4x256x8_S1x256x8_0_0_0) : (⟨S4x256x8, .f32⟩ : BufTy).Contents (Elt F) → (⟨S1x256x8, .f32⟩ : BufTy).Contents (Elt F)),
    StableHlo.reshape main_v724 main_v725 rfl shapeCasts_S1x256x8_S256x8,
    StableHlo.binary main_v96 main_v96 main_v726 (mulf : (⟨S2048x256, .f32⟩ : BufTy).Contents (Elt F) → (⟨S2048x256, .f32⟩ : BufTy).Contents (Elt F) → (⟨S2048x256, .f32⟩ : BufTy).Contents (Elt F)),
    StableHlo.nullary main_cst_150 (constant S_ .f32 0x00000000#32),
    StableHlo.binary main_v726 main_cst_150 main_v727 ((fun x v => Host.reduceAdd x v reducesTo_S2048x256_S2048_d1 h_S_) : (⟨S2048x256, .f32⟩ : BufTy).Contents (Elt F) → (⟨S_, .f32⟩ : BufTy).Contents (Elt F) → (⟨S2048, .f32⟩ : BufTy).Contents (Elt F)),
    StableHlo.unary main_v727 main_v728 (Host.sqrt : (⟨S2048, .f32⟩ : BufTy).Contents (Elt F) → (⟨S2048, .f32⟩ : BufTy).Contents (Elt F)),
    StableHlo.unary main_v96 main_v729 ((transpose S256x2048 [1, 0] · transposes_S2048x256_S256x2048_1_0) : (⟨S2048x256, .f32⟩ : BufTy).Contents (Elt F) → (⟨S256x2048, .f32⟩ : BufTy).Contents (Elt F)),
    StableHlo.binary main_v96 main_v729 main_v730 ((fun l r => Host.dotGeneral dot_S2048x256_S256x2048_S2048x2048_1_0_0_1_n_n none l r) : (⟨S2048x256, .f32⟩ : BufTy).Contents (Elt F) → (⟨S256x2048, .f32⟩ : BufTy).Contents (Elt F) → (⟨S2048x2048, .f32⟩ : BufTy).Contents (Elt F)),
    StableHlo.unary main_v728 main_v731 (broadcastInDim S2048x1 ![0] bcast_S2048_S2048x1_0 : (⟨S2048, .f32⟩ : BufTy).Contents (Elt F) → (⟨S2048x1, .f32⟩ : BufTy).Contents (Elt F)),
    StableHlo.unary main_v728 main_v732 (broadcastInDim S1x2048 ![1] bcast_S2048_S1x2048_1 : (⟨S2048, .f32⟩ : BufTy).Contents (Elt F) → (⟨S1x2048, .f32⟩ : BufTy).Contents (Elt F)),
    StableHlo.unary main_v731 main_v733 (broadcastInDim S2048x2048 ![0, 1] bcast_S2048x1_S2048x2048_0_1 : (⟨S2048x1, .f32⟩ : BufTy).Contents (Elt F) → (⟨S2048x2048, .f32⟩ : BufTy).Contents (Elt F)),
    StableHlo.unary main_v732 main_v734 (broadcastInDim S2048x2048 ![0, 1] bcast_S1x2048_S2048x2048_0_1 : (⟨S1x2048, .f32⟩ : BufTy).Contents (Elt F) → (⟨S2048x2048, .f32⟩ : BufTy).Contents (Elt F)),
    StableHlo.binary main_v733 main_v734 main_v735 (mulf : (⟨S2048x2048, .f32⟩ : BufTy).Contents (Elt F) → (⟨S2048x2048, .f32⟩ : BufTy).Contents (Elt F) → (⟨S2048x2048, .f32⟩ : BufTy).Contents (Elt F)),
    StableHlo.binary main_v730 main_v735 main_v736 (Host.divf : (⟨S2048x2048, .f32⟩ : BufTy).Contents (Elt F) → (⟨S2048x2048, .f32⟩ : BufTy).Contents (Elt F) → (⟨S2048x2048, .f32⟩ : BufTy).Contents (Elt F)),
    StableHlo.nullary main_v737 (iotaInDim S2048x2048 32 0),
    StableHlo.nullary main_v738 (iotaInDim S2048x2048 32 1),
    StableHlo.nullary main_c_151 (constantI S_ 32 0#32),
    StableHlo.unary main_c_151 main_v739 (broadcastInDim S2048x2048 ![] bcast_S_S2048x2048 : (⟨S_, .i32⟩ : BufTy).Contents (Elt F) → (⟨S2048x2048, .i32⟩ : BufTy).Contents (Elt F)),
    StableHlo.binary main_v737 main_v739 main_v740 (addi : (⟨S2048x2048, .i32⟩ : BufTy).Contents (Elt F) → (⟨S2048x2048, .i32⟩ : BufTy).Contents (Elt F) → (⟨S2048x2048, .i32⟩ : BufTy).Contents (Elt F)),
    StableHlo.binary main_v740 main_v738 main_v741 (cmpi .eq : (⟨S2048x2048, .i32⟩ : BufTy).Contents (Elt F) → (⟨S2048x2048, .i32⟩ : BufTy).Contents (Elt F) → (⟨S2048x2048, .i1⟩ : BufTy).Contents (Elt F)),
    StableHlo.unary main_v741 main_v742 (uitofp .f32 : (⟨S2048x2048, .i1⟩ : BufTy).Contents (Elt F) → (⟨S2048x2048, .f32⟩ : BufTy).Contents (Elt F)),
    StableHlo.nullary main_cst_152 (constant S_ .f32 0x3F800000#32),
    StableHlo.unary main_cst_152 main_v743 (broadcastInDim S2048x2048 ![] bcast_S_S2048x2048 : (⟨S_, .f32⟩ : BufTy).Contents (Elt F) → (⟨S2048x2048, .f32⟩ : BufTy).Contents (Elt F)),
    StableHlo.binary main_v743 main_v742 main_v744 (subf : (⟨S2048x2048, .f32⟩ : BufTy).Contents (Elt F) → (⟨S2048x2048, .f32⟩ : BufTy).Contents (Elt F) → (⟨S2048x2048, .f32⟩ : BufTy).Contents (Elt F)) ]

set_option maxRecDepth 16384 in
set_option maxHeartbeats 4000000 in
/-- The window is that line: the called functions unfold at their calls and sequencing re-associates. -/
theorem main_part14_eq (c : Dev nD) : main_part14 (F := F) c = StableHlo.seq ops_part14 := rfl

set_option maxRecDepth 16384 in
set_option maxHeartbeats 4000000 in
/-- Every operation of the window is good; the result's index is compared by computation. -/
theorem ops_part14_good : (ops_part14 : List (HloOp τ sig (Elt F))).Forall (Good 12) :=
  ⟨binary_good (h := by decide) .., nullary_good (h := by decide) .., unary_good (h := by decide) .., binary_good (h := by decide) ..,
    unary_good (h := by decide) .., reshape_good (h := by decide) .., binary_good (h := by decide) .., unary_good (h := by decide) ..,
    reshape_good (h := by decide) .., binary_good (h := by decide) .., binary_good (h := by decide) .., unary_good (h := by decide) ..,
    unary_good (h := by decide) .., nullary_good (h := by decide) .., unary_good (h := by decide) .., binary_good (h := by decide) ..,
    nullary_good (h := by decide) .., unary_good (h := by decide) .., binary_good (h := by decide) .., unary_good (h := by decide) ..,
    reshape_good (h := by decide) .., binary_good (h := by decide) .., unary_good (h := by decide) .., reshape_good (h := by decide) ..,
    binary_good (h := by decide) .., binary_good (h := by decide) .., binary_good (h := by decide) .., unary_good (h := by decide) ..,
    nullary_good (h := by decide) .., unary_good (h := by decide) .., binary_good (h := by decide) .., binary_good (h := by decide) ..,
    binary_good (h := by decide) .., binary_good (h := by decide) .., unary_good (h := by decide) .., unary_good (h := by decide) ..,
    unary_good (h := by decide) .., reshape_good (h := by decide) .., binary_good (h := by decide) .., nullary_good (h := by decide) ..,
    binary_good (h := by decide) .., unary_good (h := by decide) .., unary_good (h := by decide) .., binary_good (h := by decide) ..,
    unary_good (h := by decide) .., unary_good (h := by decide) .., unary_good (h := by decide) .., unary_good (h := by decide) ..,
    binary_good (h := by decide) .., binary_good (h := by decide) .., nullary_good (h := by decide) .., nullary_good (h := by decide) ..,
    nullary_good (h := by decide) .., unary_good (h := by decide) .., binary_good (h := by decide) .., binary_good (h := by decide) ..,
    unary_good (h := by decide) .., nullary_good (h := by decide) .., unary_good (h := by decide) .., binary_good (h := by decide) ..⟩

end Cert.ReferenceIdeal.Hand

end
-- ==== Proof.Ref.W15.lean ====
import proofs.«146970_j35948876268088_1_alg».proof.ReferenceIdeal.P03
import proofs.«146970_j35948876268088_1_alg».proof.Proof.Ref.Keep

noncomputable section

namespace Cert.ReferenceIdeal.Hand

open Cert.ReferenceIdeal Idealize.ShloMosaic Idealize.ShloMosaic.TcCoe Idealize.SL.Sem Idealize.ShloMosaic.StableHlo

variable {F : FTy → Type} [FloatOps F]

variable [Facts]
open Facts₀ Facts

set_option maxHeartbeats 4000000 in
/-- The operations of window 15, in order; a called function's operations stand in its call's place. -/
abbrev ops_part15 : List (HloOp τ sig (Elt F)) :=
  [ StableHlo.nullary main_cst_153 (constant S_ .f32 0x3F000000#32),
    StableHlo.unary main_cst_153 main_v745 (broadcastInDim S2048x2048 ![] bcast_S_S2048x2048 : (⟨S_, .f32⟩ : BufTy).Contents (Elt F) → (⟨S2048x2048, .f32⟩ : BufTy).Contents (Elt F)),
    StableHlo.binary main_v736 main_v745 main_v746 (cmpf .ogt : (⟨S2048x2048, .f32⟩ : BufTy).Contents (Elt F) → (⟨S2048x2048, .f32⟩ : BufTy).Contents (Elt F) → (⟨S2048x2048, .i1⟩ : BufTy).Contents (Elt F)),
    StableHlo.nullary main_cst_154 (constant S_ .f32 0x00000000#32),
    StableHlo.TRef.unary (StableHlo.TRef.of (T := ⟨S_, .f32⟩) main_cst_154) main_call28.v0 id,
    StableHlo.TRef.unary main_call28.v0 main_call28.v1 (broadcastInDim S2048x2048 ![] bcast_S_S2048x2048),
    StableHlo.TRef.ternary (StableHlo.TRef.of (T := ⟨S2048x2048, .i1⟩) main_v746) (StableHlo.TRef.of (T := ⟨S2048x2048, .f32⟩) main_v736) main_call28.v1 main_call28.v2 select,
    StableHlo.binary main_v747 main_v744 main_v748 (mulf : (⟨S2048x2048, .f32⟩ : BufTy).Contents (Elt F) → (⟨S2048x2048, .f32⟩ : BufTy).Contents (Elt F) → (⟨S2048x2048, .f32⟩ : BufTy).Contents (Elt F)),
    StableHlo.unary main_v74 main_v749 ((transpose S2048x2048 [1, 0] · transposes_S2048x2048_S2048x2048_1_0) : (⟨S2048x2048, .f32⟩ : BufTy).Contents (Elt F) → (⟨S2048x2048, .f32⟩ : BufTy).Contents (Elt F)),
    StableHlo.binary main_v74 main_v749 main_v750 ((fun l r => Host.dotGeneral dot_S2048x2048_S2048x2048_S2048x2048_1_0_0_1_n_n none l r) : (⟨S2048x2048, .f32⟩ : BufTy).Contents (Elt F) → (⟨S2048x2048, .f32⟩ : BufTy).Contents (Elt F) → (⟨S2048x2048, .f32⟩ : BufTy).Contents (Elt F)),
    StableHlo.nullary main_cst_155 (constant S_ .f32 0x00000000#32),
    StableHlo.unary main_cst_155 main_v751 (broadcastInDim S2048x2048 ![] bcast_S_S2048x2048 : (⟨S_, .f32⟩ : BufTy).Contents (Elt F) → (⟨S2048x2048, .f32⟩ : BufTy).Contents (Elt F)),
    StableHlo.binary main_v750 main_v751 main_v752 (cmpf .ogt : (⟨S2048x2048, .f32⟩ : BufTy).Contents (Elt F) → (⟨S2048x2048, .f32⟩ : BufTy).Contents (Elt F) → (⟨S2048x2048, .i1⟩ : BufTy).Contents (Elt F)),
    StableHlo.unary main_v752 main_v753 (uitofp .f32 : (⟨S2048x2048, .i1⟩ : BufTy).Contents (Elt F) → (⟨S2048x2048, .f32⟩ : BufTy).Contents (Elt F)),
    StableHlo.binary main_v753 main_v744 main_v754 (mulf : (⟨S2048x2048, .f32⟩ : BufTy).Contents (Elt F) → (⟨S2048x2048, .f32⟩ : BufTy).Contents (Elt F) → (⟨S2048x2048, .f32⟩ : BufTy).Contents (Elt F)),
    StableHlo.binary main_v748 main_v754 main_v755 (mulf : (⟨S2048x2048, .f32⟩ : BufTy).Contents (Elt F) → (⟨S2048x2048, .f32⟩ : BufTy).Contents (Elt F) → (⟨S2048x2048, .f32⟩ : BufTy).Contents (Elt F)),
    StableHlo.nullary main_cst_156 (constant S_ .f32 0x00000000#32),
    StableHlo.binary main_v755 main_cst_156 main_v756 ((fun x v => Host.reduceAdd x v reducesTo_S2048x2048_S2048_d1 h_S_) : (⟨S2048x2048, .f32⟩ : BufTy).Contents (Elt F) → (⟨S_, .f32⟩ : BufTy).Contents (Elt F) → (⟨S2048, .f32⟩ : BufTy).Contents (Elt F)),
    StableHlo.unary main_v756 main_v757 (broadcastInDim S2048x1 ![0] bcast_S2048_S2048x1_0 : (⟨S2048, .f32⟩ : BufTy).Contents (Elt F) → (⟨S2048x1, .f32⟩ : BufTy).Contents (Elt F)),
    StableHlo.unary main_v757 main_v758 (broadcastInDim S2048x2048 ![0, 1] bcast_S2048x1_S2048x2048_0_1 : (⟨S2048x1, .f32⟩ : BufTy).Contents (Elt F) → (⟨S2048x2048, .f32⟩ : BufTy).Contents (Elt F)),
    StableHlo.binary main_v74 main_v758 main_v759 (mulf : (⟨S2048x2048, .f32⟩ : BufTy).Contents (Elt F) → (⟨S2048x2048, .f32⟩ : BufTy).Contents (Elt F) → (⟨S2048x2048, .f32⟩ : BufTy).Contents (Elt F)),
    StableHlo.nullary main_cst_157 (constant S_ .f32 0x00000000#32),
    StableHlo.binary main_v759 main_cst_157 main_v760 ((fun x v => Host.reduceAdd x v reducesTo_S2048x2048_S2048_d0 h_S_) : (⟨S2048x2048, .f32⟩ : BufTy).Contents (Elt F) → (⟨S_, .f32⟩ : BufTy).Contents (Elt F) → (⟨S2048, .f32⟩ : BufTy).Contents (Elt F)),
    StableHlo.unary main_v760 main_v761 (broadcastInDim S2048x1 ![0] bcast_S2048_S2048x1_0 : (⟨S2048, .f32⟩ : BufTy).Contents (Elt F) → (⟨S2048x1, .f32⟩ : BufTy).Contents (Elt F)),
    StableHlo.binary main_v96 main_v725 main_v762 ((fun l r => Host.dotGeneral dot_S2048x256_S256x8_S2048x8_1_0_0_1_n_n none l r) : (⟨S2048x256, .f32⟩ : BufTy).Contents (Elt F) → (⟨S256x8, .f32⟩ : BufTy).Contents (Elt F) → (⟨S2048x8, .f32⟩ : BufTy).Contents (Elt F)),
    StableHlo.binary main_v96 main_v725 main_v763 ((fun l r => Host.dotGeneral dot_S2048x256_S256x8_S2048x8_1_0_0_1_n_n none l r) : (⟨S2048x256, .f32⟩ : BufTy).Contents (Elt F) → (⟨S256x8, .f32⟩ : BufTy).Contents (Elt F) → (⟨S2048x8, .f32⟩ : BufTy).Contents (Elt F)),
    StableHlo.binary main_v89 main_v725 main_v764 ((fun l r => Host.dotGeneral dot_S2048x256_S256x8_S2048x8_1_0_0_1_n_n none l r) : (⟨S2048x256, .f32⟩ : BufTy).Contents (Elt F) → (⟨S256x8, .f32⟩ : BufTy).Contents (Elt F) → (⟨S2048x8, .f32⟩ : BufTy).Contents (Elt F)),
    StableHlo.unary main_v722 main_v765 ((extractStridedSlice S8x1 ![0, 0] · slices_S16x1_S8x1_0_0) : (⟨S16x1, .f32⟩ : BufTy).Contents (Elt F) → (⟨S8x1, .f32⟩ : BufTy).Contents (Elt F)),
    StableHlo.binary main_v763 main_v765 main_v766 ((fun l r => Host.dotGeneral dot_S2048x8_S8x1_S2048x1_1_0_0_1_n_n none l r) : (⟨S2048x8, .f32⟩ : BufTy).Contents (Elt F) → (⟨S8x1, .f32⟩ : BufTy).Contents (Elt F) → (⟨S2048x1, .f32⟩ : BufTy).Contents (Elt F)),
    StableHlo.unary main_v722 main_v767 ((extractStridedSlice S8x1 ![8, 0] · slices_S16x1_S8x1_8_0) : (⟨S16x1, .f32⟩ : BufTy).Contents (Elt F) → (⟨S8x1, .f32⟩ : BufTy).Contents (Elt F)),
    StableHlo.binary main_v764 main_v767 main_v768 ((fun l r => Host.dotGeneral dot_S2048x8_S8x1_S2048x1_1_0_0_1_n_n none l r) : (⟨S2048x8, .f32⟩ : BufTy).Contents (Elt F) → (⟨S8x1, .f32⟩ : BufTy).Contents (Elt F) → (⟨S2048x1, .f32⟩ : BufTy).Contents (Elt F)),
    StableHlo.unary main_v768 main_v769 ((transpose S1x2048 [1, 0] · transposes_S2048x1_S1x2048_1_0) : (⟨S2048x1, .f32⟩ : BufTy).Contents (Elt F) → (⟨S1x2048, .f32⟩ : BufTy).Contents (Elt F)),
    StableHlo.unary main_v766 main_v770 (broadcastInDim S2048x2048 ![0, 1] bcast_S2048x1_S2048x2048_0_1 : (⟨S2048x1, .f32⟩ : BufTy).Contents (Elt F) → (⟨S2048x2048, .f32⟩ : BufTy).Contents (Elt F)),
    StableHlo.unary main_v769 main_v771 (broadcastInDim S2048x2048 ![0, 1] bcast_S1x2048_S2048x2048_0_1 : (⟨S1x2048, .f32⟩ : BufTy).Contents (Elt F) → (⟨S2048x2048, .f32⟩ : BufTy).Contents (Elt F)),
    StableHlo.binary main_v770 main_v771 main_v772 (addf : (⟨S2048x2048, .f32⟩ : BufTy).Contents (Elt F) → (⟨S2048x2048, .f32⟩ : BufTy).Contents (Elt F) → (⟨S2048x2048, .f32⟩ : BufTy).Contents (Elt F)),
    StableHlo.nullary main_cst_158 (constant S_ .f32 0x3E4CCCCD#32),
    StableHlo.TRef.nullary main_call29.cst (constant S_ .f32 0x00000000#32),
    StableHlo.TRef.unary main_call29.cst main_call29.v0 (broadcastInDim S2048x2048 ![] bcast_S_S2048x2048),
    StableHlo.TRef.binary (StableHlo.TRef.of (T := ⟨S2048x2048, .f32⟩) main_v772) main_call29.v0 main_call29.v1 (cmpf .oge),
    StableHlo.TRef.unary (StableHlo.TRef.of (T := ⟨S_, .f32⟩) main_cst_158) main_call29.v2 id,
    StableHlo.TRef.unary main_call29.v2 main_call29.v3 (broadcastInDim S2048x2048 ![] bcast_S_S2048x2048),
    StableHlo.TRef.binary main_call29.v3 (StableHlo.TRef.of (T := ⟨S2048x2048, .f32⟩) main_v772) main_call29.v4 mulf,
    StableHlo.TRef.ternary main_call29.v1 (StableHlo.TRef.of (T := ⟨S2048x2048, .f32⟩) main_v772) main_call29.v4 main_call29.call0.v0 select,
    StableHlo.nullary main_cst_159 (constant S_ .f32 0x7F800000#32),
    StableHlo.binary main_v757 main_cst_159 main_v774 ((fun x v => Host.reduce FloatOps.minimumf x v reducesTo_S2048x1_S_d0_1 h_S_) : (⟨S2048x1, .f32⟩ : BufTy).Contents (Elt F) → (⟨S_, .f32⟩ : BufTy).Contents (Elt F) → (⟨S_, .f32⟩ : BufTy).Contents (Elt F)),
    StableHlo.unary main_v774 main_v775 (broadcastInDim S2048x1 ![] bcast_S_S2048x1 : (⟨S_, .f32⟩ : BufTy).Contents (Elt F) → (⟨S2048x1, .f32⟩ : BufTy).Contents (Elt F)),
    StableHlo.binary main_v757 main_v775 main_v776 (subf : (⟨S2048x1, .f32⟩ : BufTy).Contents (Elt F) → (⟨S2048x1, .f32⟩ : BufTy).Contents (Elt F) → (⟨S2048x1, .f32⟩ : BufTy).Contents (Elt F)),
    StableHlo.nullary main_cst_160 (constant S_ .f32 0xFF800000#32),
    StableHlo.binary main_v757 main_cst_160 main_v777 ((fun x v => Host.reduce FloatOps.maximumf x v reducesTo_S2048x1_S_d0_1 h_S_) : (⟨S2048x1, .f32⟩ : BufTy).Contents (Elt F) → (⟨S_, .f32⟩ : BufTy).Contents (Elt F) → (⟨S_, .f32⟩ : BufTy).Contents (Elt F)),
    StableHlo.nullary main_cst_161 (constant S_ .f32 0x7F800000#32),
    StableHlo.binary main_v757 main_cst_161 main_v778 ((fun x v => Host.reduce FloatOps.minimumf x v reducesTo_S2048x1_S_d0_1 h_S_) : (⟨S2048x1, .f32⟩ : BufTy).Contents (Elt F) → (⟨S_, .f32⟩ : BufTy).Contents (Elt F) → (⟨S_, .f32⟩ : BufTy).Contents (Elt F)),
    StableHlo.binary main_v777 main_v778 main_v779 (subf : (⟨S_, .f32⟩ : BufTy).Contents (Elt F) → (⟨S_, .f32⟩ : BufTy).Contents (Elt F) → (⟨S_, .f32⟩ : BufTy).Contents (Elt F)),
    StableHlo.unary main_v779 main_v780 (broadcastInDim S2048x1 ![] bcast_S_S2048x1 : (⟨S_, .f32⟩ : BufTy).Contents (Elt F) → (⟨S2048x1, .f32⟩ : BufTy).Contents (Elt F)),
    StableHlo.binary main_v776 main_v780 main_v781 (Host.divf : (⟨S2048x1, .f32⟩ : BufTy).Contents (Elt F) → (⟨S2048x1, .f32⟩ : BufTy).Contents (Elt F) → (⟨S2048x1, .f32⟩ : BufTy).Contents (Elt F)),
    StableHlo.nullary main_cst_162 (constant S_ .f32 0xFF800000#32),
    StableHlo.binary main_v773 main_cst_162 main_v782 ((fun x v => Host.reduce FloatOps.maximumf x v reducesTo_S2048x2048_S_d0_1 h_S_) : (⟨S2048x2048, .f32⟩ : BufTy).Contents (Elt F) → (⟨S_, .f32⟩ : BufTy).Contents (Elt F) → (⟨S_, .f32⟩ : BufTy).Contents (Elt F)),
    StableHlo.unary main_v782 main_v783 (broadcastInDim S2048x1 ![] bcast_S_S2048x1 : (⟨S_, .f32⟩ : BufTy).Contents (Elt F) → (⟨S2048x1, .f32⟩ : BufTy).Contents (Elt F)),
    StableHlo.binary main_v781 main_v783 main_v784 (mulf : (⟨S2048x1, .f32⟩ : BufTy).Contents (Elt F) → (⟨S2048x1, .f32⟩ : BufTy).Contents (Elt F) → (⟨S2048x1, .f32⟩ : BufTy).Contents (Elt F)),
    StableHlo.nullary main_cst_163 (constant S_ .f32 0x00000000#32),
    StableHlo.unary main_cst_163 main_v785 (broadcastInDim S2048x2048 ![] bcast_S_S2048x2048 : (⟨S_, .f32⟩ : BufTy).Contents (Elt F) → (⟨S2048x2048, .f32⟩ : BufTy).Contents (Elt F)),
    StableHlo.binary main_v74 main_v785 main_v786 (cmpf .ogt : (⟨S2048x2048, .f32⟩ : BufTy).Contents (Elt F) → (⟨S2048x2048, .f32⟩ : BufTy).Contents (Elt F) → (⟨S2048x2048, .i1⟩ : BufTy).Contents (Elt F)),
    StableHlo.unary main_v784 main_v787 (broadcastInDim S2048x2048 ![0, 1] bcast_S2048x1_S2048x2048_0_1 : (⟨S2048x1, .f32⟩ : BufTy).Contents (Elt F) → (⟨S2048x2048, .f32⟩ : BufTy).Contents (Elt F)),
    StableHlo.binary main_v773 main_v787 main_v788 (addf : (⟨S2048x2048, .f32⟩ : BufTy).Contents (Elt F) → (⟨S2048x2048, .f32⟩ : BufTy).Contents (Elt F) → (⟨S2048x2048, .f32⟩ : BufTy).Contents (Elt F)),
    StableHlo.nullary main_cst_164 (constant S_ .f32 0xD368D4A5#32),
    StableHlo.TRef.unary (StableHlo.TRef.of (T := ⟨S_, .f32⟩) main_cst_164) main_call30.v0 id,
    StableHlo.TRef.unary main_call30.v0 main_call30.v1 (broadcastInDim S2048x2048 ![] bcast_S_S2048x2048),
    StableHlo.TRef.ternary (StableHlo.TRef.of (T := ⟨S2048x2048, .i1⟩) main_v786) (StableHlo.TRef.of (T := ⟨S2048x2048, .f32⟩) main_v788) main_call30.v1 main_call30.v2 select,
    StableHlo.nullary main_cst_165 (constant S_ .f32 0xFF800000#32),
    StableHlo.binary main_v789 main_cst_165 main_v790 ((fun x v => Host.reduce FloatOps.maximumf x v reducesTo_S2048x2048_S2048_d1 h_S_) : (⟨S2048x2048, .f32⟩ : BufTy).Contents (Elt F) → (⟨S_, .f32⟩ : BufTy).Contents (Elt F) → (⟨S2048, .f32⟩ : BufTy).Contents (Elt F)),
    StableHlo.nullary main_cst_166 (constant S_ .f32 0xFF800000#32) ]

set_option maxRecDepth 16384 in
set_option maxHeartbeats 4000000 in
/-- The window is that line: the called functions unfold at their calls and sequencing re-associates. -/
theorem main_part15_eq (c : Dev nD) : main_part15 (F := F) c = StableHlo.seq ops_part15 := rfl

set_option maxRecDepth 16384 in
set_option maxHeartbeats 4000000 in
/-- Every operation of the window is good; the result's index is compared by computation. -/
theorem ops_part15_good : (ops_part15 : List (HloOp τ sig (Elt F))).Forall (Good 12) :=
  ⟨nullary_good (h := by decide) .., unary_good (h := by decide) .., binary_good (h := by decide) .., nullary_good (h := by decide) ..,
    unary_good (h := by decide) .., unary_good (h := by decide) .., ternary_good (h := by decide) .., binary_good (h := by decide) ..,
    unary_good (h := by decide) .., binary_good (h := by decide) .., nullary_good (h := by decide) .., unary_good (h := by decide) ..,
    binary_good (h := by decide) .., unary_good (h := by decide) .., binary_good (h := by decide) .., binary_good (h := by decide) ..,
    nullary_good (h := by decide) .., binary_good (h := by decide) .., unary_good (h := by decide) .., unary_good (h := by decide) ..,
    binary_good (h := by decide) .., nullary_good (h := by decide) .., binary_good (h := by decide) .., unary_good (h := by decide) ..,
    binary_good (h := by decide) .., binary_good (h := by decide) .., binary_good (h := by decide) .., unary_good (h := by decide) ..,
    binary_good (h := by decide) .., unary_good (h := by decide) .., binary_good (h := by decide) .., unary_good (h := by decide) ..,
    unary_good (h := by decide) .., unary_good (h := by decide) .., binary_good (h := by decide) .., nullary_good (h := by decide) ..,
    nullary_good (h := by decide) .., unary_good (h := by decide) .., binary_good (h := by decide) .., unary_good (h := by decide) ..,
    unary_good (h := by decide) .., binary_good (h := by decide) .., ternary_good (h := by decide) .., nullary_good (h := by decide) ..,
    binary_good (h := by decide) .., unary_good (h := by decide) .., binary_good (h := by decide) .., nullary_good (h := by decide) ..,
    binary_good (h := by decide) .., nullary_good (h := by decide) .., binary_good (h := by decide) .., binary_good (h := by decide) ..,
    unary_good (h := by decide) .., binary_good (h := by decide) .., nullary_good (h := by decide) .., binary_good (h := by decide) ..,
    unary_good (h := by decide) .., binary_good (h := by decide) .., nullary_good (h := by decide) .., unary_good (h := by decide) ..,
    binary_good (h := by decide) .., unary_good (h := by decide) .., binary_good (h := by decide) .., nullary_good (h := by decide) ..,
    unary_good (h := by decide) .., unary_good (h := by decide) .., ternary_good (h := by decide) .., nullary_good (h := by decide) ..,
    binary_good (h := by decide) .., nullary_good (h := by decide) ..⟩

end Cert.ReferenceIdeal.Hand

end
-- ==== Proof.Ref.W16.lean ====
import proofs.«146970_j35948876268088_1_alg».proof.ReferenceIdeal.P03
import proofs.«146970_j35948876268088_1_alg».proof.Proof.Ref.Keep

noncomputable section

namespace Cert.ReferenceIdeal.Hand

open Cert.ReferenceIdeal Idealize.ShloMosaic Idealize.ShloMosaic.TcCoe Idealize.SL.Sem Idealize.ShloMosaic.StableHlo

variable {F : FTy → Type} [FloatOps F]

variable [Facts]
open Facts₀ Facts

set_option maxHeartbeats 4000000 in
/-- The operations of window 16, in order; a called function's operations stand in its call's place. -/
abbrev ops_part16 : List (HloOp τ sig (Elt F)) :=
  [ StableHlo.unary main_cst_166 main_v791 (broadcastInDim S2048 ![] bcast_S_S2048 : (⟨S_, .f32⟩ : BufTy).Contents (Elt F) → (⟨S2048, .f32⟩ : BufTy).Contents (Elt F)),
    StableHlo.binary main_v791 main_v790 main_v792 (maximumf : (⟨S2048, .f32⟩ : BufTy).Contents (Elt F) → (⟨S2048, .f32⟩ : BufTy).Contents (Elt F) → (⟨S2048, .f32⟩ : BufTy).Contents (Elt F)),
    StableHlo.unary main_v792 main_v793 (broadcastInDim S2048x1 ![0] bcast_S2048_S2048x1_0 : (⟨S2048, .f32⟩ : BufTy).Contents (Elt F) → (⟨S2048x1, .f32⟩ : BufTy).Contents (Elt F)),
    StableHlo.unary main_v793 main_v794 (broadcastInDim S2048x2048 ![0, 1] bcast_S2048x1_S2048x2048_0_1 : (⟨S2048x1, .f32⟩ : BufTy).Contents (Elt F) → (⟨S2048x2048, .f32⟩ : BufTy).Contents (Elt F)),
    StableHlo.binary main_v789 main_v794 main_v795 (subf : (⟨S2048x2048, .f32⟩ : BufTy).Contents (Elt F) → (⟨S2048x2048, .f32⟩ : BufTy).Contents (Elt F) → (⟨S2048x2048, .f32⟩ : BufTy).Contents (Elt F)),
    StableHlo.unary main_v795 main_v796 (Host.exp : (⟨S2048x2048, .f32⟩ : BufTy).Contents (Elt F) → (⟨S2048x2048, .f32⟩ : BufTy).Contents (Elt F)),
    StableHlo.nullary main_cst_167 (constant S_ .f32 0x00000000#32),
    StableHlo.binary main_v796 main_cst_167 main_v797 ((fun x v => Host.reduceAdd x v reducesTo_S2048x2048_S2048_d1 h_S_) : (⟨S2048x2048, .f32⟩ : BufTy).Contents (Elt F) → (⟨S_, .f32⟩ : BufTy).Contents (Elt F) → (⟨S2048, .f32⟩ : BufTy).Contents (Elt F)),
    StableHlo.unary main_v797 main_v798 (broadcastInDim S2048x1 ![0] bcast_S2048_S2048x1_0 : (⟨S2048, .f32⟩ : BufTy).Contents (Elt F) → (⟨S2048x1, .f32⟩ : BufTy).Contents (Elt F)),
    StableHlo.unary main_v798 main_v799 (broadcastInDim S2048x2048 ![0, 1] bcast_S2048x1_S2048x2048_0_1 : (⟨S2048x1, .f32⟩ : BufTy).Contents (Elt F) → (⟨S2048x2048, .f32⟩ : BufTy).Contents (Elt F)),
    StableHlo.binary main_v796 main_v799 main_v800 (Host.divf : (⟨S2048x2048, .f32⟩ : BufTy).Contents (Elt F) → (⟨S2048x2048, .f32⟩ : BufTy).Contents (Elt F) → (⟨S2048x2048, .f32⟩ : BufTy).Contents (Elt F)),
    StableHlo.unary main_v800 main_v801 ((transpose S2048x2048 [1, 0] · transposes_S2048x2048_S2048x2048_1_0) : (⟨S2048x2048, .f32⟩ : BufTy).Contents (Elt F) → (⟨S2048x2048, .f32⟩ : BufTy).Contents (Elt F)),
    StableHlo.binary main_v801 main_v762 main_v802 ((fun l r => Host.dotGeneral dot_S2048x2048_S2048x8_S2048x8_1_0_0_1_n_n none l r) : (⟨S2048x2048, .f32⟩ : BufTy).Contents (Elt F) → (⟨S2048x8, .f32⟩ : BufTy).Contents (Elt F) → (⟨S2048x8, .f32⟩ : BufTy).Contents (Elt F)),
    StableHlo.TRef.nullary main_call31.cst (constant S_ .f32 0x00000000#32),
    StableHlo.TRef.unary main_call31.cst main_call31.v0 (broadcastInDim S2048x8 ![] bcast_S_S2048x8),
    StableHlo.TRef.binary (StableHlo.TRef.of (T := ⟨S2048x8, .f32⟩) main_v802) main_call31.v0 main_call31.v1 (cmpf .ogt),
    StableHlo.TRef.nullary main_call31.cst_0 (constant S_ .f32 0x00000000#32),
    StableHlo.TRef.unary main_call31.cst_0 main_call31.v2 (broadcastInDim S2048x8 ![] bcast_S_S2048x8),
    StableHlo.TRef.binary (StableHlo.TRef.of (T := ⟨S2048x8, .f32⟩) main_v802) main_call31.v2 main_call31.v3 (cmpf .ogt),
    StableHlo.TRef.nullary main_call31.cst_1 (constant S_ .f32 0x00000000#32),
    StableHlo.TRef.unary main_call31.cst_1 main_call31.call0.v0 id,
    StableHlo.TRef.unary main_call31.call0.v0 main_call31.call0.v1 (broadcastInDim S2048x8 ![] bcast_S_S2048x8),
    StableHlo.TRef.ternary main_call31.v3 main_call31.call0.v1 (StableHlo.TRef.of (T := ⟨S2048x8, .f32⟩) main_v802) main_call31.call0.v2 select,
    StableHlo.TRef.unary main_call31.call0.v2 main_call31.v5 Host.expm1,
    StableHlo.TRef.nullary main_call31.cst_2 (constant S_ .f32 0x3F800000#32),
    StableHlo.TRef.unary main_call31.cst_2 main_call31.v6 (broadcastInDim S2048x8 ![] bcast_S_S2048x8),
    StableHlo.TRef.binary main_call31.v6 main_call31.v5 main_call31.v7 mulf,
    StableHlo.TRef.ternary main_call31.v1 (StableHlo.TRef.of (T := ⟨S2048x8, .f32⟩) main_v802) main_call31.v7 main_call31.call1.v0 select,
    StableHlo.unary main_v74 main_v804 ((transpose S2048x2048 [1, 0] · transposes_S2048x2048_S2048x2048_1_0) : (⟨S2048x2048, .f32⟩ : BufTy).Contents (Elt F) → (⟨S2048x2048, .f32⟩ : BufTy).Contents (Elt F)),
    StableHlo.binary main_v89 main_v725 main_v805 ((fun l r => Host.dotGeneral dot_S2048x256_S256x8_S2048x8_1_0_0_1_n_n none l r) : (⟨S2048x256, .f32⟩ : BufTy).Contents (Elt F) → (⟨S256x8, .f32⟩ : BufTy).Contents (Elt F) → (⟨S2048x8, .f32⟩ : BufTy).Contents (Elt F)),
    StableHlo.binary main_v96 main_v725 main_v806 ((fun l r => Host.dotGeneral dot_S2048x256_S256x8_S2048x8_1_0_0_1_n_n none l r) : (⟨S2048x256, .f32⟩ : BufTy).Contents (Elt F) → (⟨S256x8, .f32⟩ : BufTy).Contents (Elt F) → (⟨S2048x8, .f32⟩ : BufTy).Contents (Elt F)),
    StableHlo.unary main_v723 main_v807 ((extractStridedSlice S8x1 ![0, 0] · slices_S16x1_S8x1_0_0) : (⟨S16x1, .f32⟩ : BufTy).Contents (Elt F) → (⟨S8x1, .f32⟩ : BufTy).Contents (Elt F)),
    StableHlo.binary main_v805 main_v807 main_v808 ((fun l r => Host.dotGeneral dot_S2048x8_S8x1_S2048x1_1_0_0_1_n_n none l r) : (⟨S2048x8, .f32⟩ : BufTy).Contents (Elt F) → (⟨S8x1, .f32⟩ : BufTy).Contents (Elt F) → (⟨S2048x1, .f32⟩ : BufTy).Contents (Elt F)),
    StableHlo.unary main_v723 main_v809 ((extractStridedSlice S8x1 ![8, 0] · slices_S16x1_S8x1_8_0) : (⟨S16x1, .f32⟩ : BufTy).Contents (Elt F) → (⟨S8x1, .f32⟩ : BufTy).Contents (Elt F)),
    StableHlo.binary main_v806 main_v809 main_v810 ((fun l r => Host.dotGeneral dot_S2048x8_S8x1_S2048x1_1_0_0_1_n_n none l r) : (⟨S2048x8, .f32⟩ : BufTy).Contents (Elt F) → (⟨S8x1, .f32⟩ : BufTy).Contents (Elt F) → (⟨S2048x1, .f32⟩ : BufTy).Contents (Elt F)),
    StableHlo.unary main_v810 main_v811 ((transpose S1x2048 [1, 0] · transposes_S2048x1_S1x2048_1_0) : (⟨S2048x1, .f32⟩ : BufTy).Contents (Elt F) → (⟨S1x2048, .f32⟩ : BufTy).Contents (Elt F)),
    StableHlo.unary main_v808 main_v812 (broadcastInDim S2048x2048 ![0, 1] bcast_S2048x1_S2048x2048_0_1 : (⟨S2048x1, .f32⟩ : BufTy).Contents (Elt F) → (⟨S2048x2048, .f32⟩ : BufTy).Contents (Elt F)),
    StableHlo.unary main_v811 main_v813 (broadcastInDim S2048x2048 ![0, 1] bcast_S1x2048_S2048x2048_0_1 : (⟨S1x2048, .f32⟩ : BufTy).Contents (Elt F) → (⟨S2048x2048, .f32⟩ : BufTy).Contents (Elt F)),
    StableHlo.binary main_v812 main_v813 main_v814 (addf : (⟨S2048x2048, .f32⟩ : BufTy).Contents (Elt F) → (⟨S2048x2048, .f32⟩ : BufTy).Contents (Elt F) → (⟨S2048x2048, .f32⟩ : BufTy).Contents (Elt F)),
    StableHlo.nullary main_cst_168 (constant S_ .f32 0x3E4CCCCD#32),
    StableHlo.TRef.nullary main_call32.cst (constant S_ .f32 0x00000000#32),
    StableHlo.TRef.unary main_call32.cst main_call32.v0 (broadcastInDim S2048x2048 ![] bcast_S_S2048x2048),
    StableHlo.TRef.binary (StableHlo.TRef.of (T := ⟨S2048x2048, .f32⟩) main_v814) main_call32.v0 main_call32.v1 (cmpf .oge),
    StableHlo.TRef.unary (StableHlo.TRef.of (T := ⟨S_, .f32⟩) main_cst_168) main_call32.v2 id,
    StableHlo.TRef.unary main_call32.v2 main_call32.v3 (broadcastInDim S2048x2048 ![] bcast_S_S2048x2048),
    StableHlo.TRef.binary main_call32.v3 (StableHlo.TRef.of (T := ⟨S2048x2048, .f32⟩) main_v814) main_call32.v4 mulf,
    StableHlo.TRef.ternary main_call32.v1 (StableHlo.TRef.of (T := ⟨S2048x2048, .f32⟩) main_v814) main_call32.v4 main_call32.call0.v0 select,
    StableHlo.nullary main_cst_169 (constant S_ .f32 0x7F800000#32),
    StableHlo.binary main_v761 main_cst_169 main_v816 ((fun x v => Host.reduce FloatOps.minimumf x v reducesTo_S2048x1_S_d0_1 h_S_) : (⟨S2048x1, .f32⟩ : BufTy).Contents (Elt F) → (⟨S_, .f32⟩ : BufTy).Contents (Elt F) → (⟨S_, .f32⟩ : BufTy).Contents (Elt F)),
    StableHlo.unary main_v816 main_v817 (broadcastInDim S2048x1 ![] bcast_S_S2048x1 : (⟨S_, .f32⟩ : BufTy).Contents (Elt F) → (⟨S2048x1, .f32⟩ : BufTy).Contents (Elt F)),
    StableHlo.binary main_v761 main_v817 main_v818 (subf : (⟨S2048x1, .f32⟩ : BufTy).Contents (Elt F) → (⟨S2048x1, .f32⟩ : BufTy).Contents (Elt F) → (⟨S2048x1, .f32⟩ : BufTy).Contents (Elt F)),
    StableHlo.nullary main_cst_170 (constant S_ .f32 0xFF800000#32),
    StableHlo.binary main_v761 main_cst_170 main_v819 ((fun x v => Host.reduce FloatOps.maximumf x v reducesTo_S2048x1_S_d0_1 h_S_) : (⟨S2048x1, .f32⟩ : BufTy).Contents (Elt F) → (⟨S_, .f32⟩ : BufTy).Contents (Elt F) → (⟨S_, .f32⟩ : BufTy).Contents (Elt F)),
    StableHlo.nullary main_cst_171 (constant S_ .f32 0x7F800000#32),
    StableHlo.binary main_v761 main_cst_171 main_v820 ((fun x v => Host.reduce FloatOps.minimumf x v reducesTo_S2048x1_S_d0_1 h_S_) : (⟨S2048x1, .f32⟩ : BufTy).Contents (Elt F) → (⟨S_, .f32⟩ : BufTy).Contents (Elt F) → (⟨S_, .f32⟩ : BufTy).Contents (Elt F)),
    StableHlo.binary main_v819 main_v820 main_v821 (subf : (⟨S_, .f32⟩ : BufTy).Contents (Elt F) → (⟨S_, .f32⟩ : BufTy).Contents (Elt F) → (⟨S_, .f32⟩ : BufTy).Contents (Elt F)),
    StableHlo.unary main_v821 main_v822 (broadcastInDim S2048x1 ![] bcast_S_S2048x1 : (⟨S_, .f32⟩ : BufTy).Contents (Elt F) → (⟨S2048x1, .f32⟩ : BufTy).Contents (Elt F)),
    StableHlo.binary main_v818 main_v822 main_v823 (Host.divf : (⟨S2048x1, .f32⟩ : BufTy).Contents (Elt F) → (⟨S2048x1, .f32⟩ : BufTy).Contents (Elt F) → (⟨S2048x1, .f32⟩ : BufTy).Contents (Elt F)),
    StableHlo.nullary main_cst_172 (constant S_ .f32 0xFF800000#32),
    StableHlo.binary main_v815 main_cst_172 main_v824 ((fun x v => Host.reduce FloatOps.maximumf x v reducesTo_S2048x2048_S_d0_1 h_S_) : (⟨S2048x2048, .f32⟩ : BufTy).Contents (Elt F) → (⟨S_, .f32⟩ : BufTy).Contents (Elt F) → (⟨S_, .f32⟩ : BufTy).Contents (Elt F)),
    StableHlo.unary main_v824 main_v825 (broadcastInDim S2048x1 ![] bcast_S_S2048x1 : (⟨S_, .f32⟩ : BufTy).Contents (Elt F) → (⟨S2048x1, .f32⟩ : BufTy).Contents (Elt F)),
    StableHlo.binary main_v823 main_v825 main_v826 (mulf : (⟨S2048x1, .f32⟩ : BufTy).Contents (Elt F) → (⟨S2048x1, .f32⟩ : BufTy).Contents (Elt F) → (⟨S2048x1, .f32⟩ : BufTy).Contents (Elt F)),
    StableHlo.nullary main_cst_173 (constant S_ .f32 0x00000000#32),
    StableHlo.unary main_cst_173 main_v827 (broadcastInDim S2048x2048 ![] bcast_S_S2048x2048 : (⟨S_, .f32⟩ : BufTy).Contents (Elt F) → (⟨S2048x2048, .f32⟩ : BufTy).Contents (Elt F)),
    StableHlo.binary main_v804 main_v827 main_v828 (cmpf .ogt : (⟨S2048x2048, .f32⟩ : BufTy).Contents (Elt F) → (⟨S2048x2048, .f32⟩ : BufTy).Contents (Elt F) → (⟨S2048x2048, .i1⟩ : BufTy).Contents (Elt F)),
    StableHlo.unary main_v826 main_v829 (broadcastInDim S2048x2048 ![0, 1] bcast_S2048x1_S2048x2048_0_1 : (⟨S2048x1, .f32⟩ : BufTy).Contents (Elt F) → (⟨S2048x2048, .f32⟩ : BufTy).Contents (Elt F)),
    StableHlo.binary main_v815 main_v829 main_v830 (addf : (⟨S2048x2048, .f32⟩ : BufTy).Contents (Elt F) → (⟨S2048x2048, .f32⟩ : BufTy).Contents (Elt F) → (⟨S2048x2048, .f32⟩ : BufTy).Contents (Elt F)),
    StableHlo.nullary main_cst_174 (constant S_ .f32 0xD368D4A5#32),
    StableHlo.TRef.unary (StableHlo.TRef.of (T := ⟨S_, .f32⟩) main_cst_174) main_call33.v0 id,
    StableHlo.TRef.unary main_call33.v0 main_call33.v1 (broadcastInDim S2048x2048 ![] bcast_S_S2048x2048),
    StableHlo.TRef.ternary (StableHlo.TRef.of (T := ⟨S2048x2048, .i1⟩) main_v828) (StableHlo.TRef.of (T := ⟨S2048x2048, .f32⟩) main_v830) main_call33.v1 main_call33.v2 select,
    StableHlo.nullary main_cst_175 (constant S_ .f32 0xFF800000#32),
    StableHlo.binary main_v831 main_cst_175 main_v832 ((fun x v => Host.reduce FloatOps.maximumf x v reducesTo_S2048x2048_S2048_d1 h_S_) : (⟨S2048x2048, .f32⟩ : BufTy).Contents (Elt F) → (⟨S_, .f32⟩ : BufTy).Contents (Elt F) → (⟨S2048, .f32⟩ : BufTy).Contents (Elt F)),
    StableHlo.nullary main_cst_176 (constant S_ .f32 0xFF800000#32),
    StableHlo.unary main_cst_176 main_v833 (broadcastInDim S2048 ![] bcast_S_S2048 : (⟨S_, .f32⟩ : BufTy).Contents (Elt F) → (⟨S2048, .f32⟩ : BufTy).Contents (Elt F)),
    StableHlo.binary main_v833 main_v832 main_v834 (maximumf : (⟨S2048, .f32⟩ : BufTy).Contents (Elt F) → (⟨S2048, .f32⟩ : BufTy).Contents (Elt F) → (⟨S2048, .f32⟩ : BufTy).Contents (Elt F)),
    StableHlo.unary main_v834 main_v835 (broadcastInDim S2048x1 ![0] bcast_S2048_S2048x1_0 : (⟨S2048, .f32⟩ : BufTy).Contents (Elt F) → (⟨S2048x1, .f32⟩ : BufTy).Contents (Elt F)),
    StableHlo.unary main_v835 main_v836 (broadcastInDim S2048x2048 ![0, 1] bcast_S2048x1_S2048x2048_0_1 : (⟨S2048x1, .f32⟩ : BufTy).Contents (Elt F) → (⟨S2048x2048, .f32⟩ : BufTy).Contents (Elt F)),
    StableHlo.binary main_v831 main_v836 main_v837 (subf : (⟨S2048x2048, .f32⟩ : BufTy).Contents (Elt F) → (⟨S2048x2048, .f32⟩ : BufTy).Contents (Elt F) → (⟨S2048x2048, .f32⟩ : BufTy).Contents (Elt F)),
    StableHlo.unary main_v837 main_v838 (Host.exp : (⟨S2048x2048, .f32⟩ : BufTy).Contents (Elt F) → (⟨S2048x2048, .f32⟩ : BufTy).Contents (Elt F)),
    StableHlo.nullary main_cst_177 (constant S_ .f32 0x00000000#32),
    StableHlo.binary main_v838 main_cst_177 main_v839 ((fun x v => Host.reduceAdd x v reducesTo_S2048x2048_S2048_d1 h_S_) : (⟨S2048x2048, .f32⟩ : BufTy).Contents (Elt F) → (⟨S_, .f32⟩ : BufTy).Contents (Elt F) → (⟨S2048, .f32⟩ : BufTy).Contents (Elt F)) ]

set_option maxRecDepth 16384 in
set_option maxHeartbeats 4000000 in
/-- The window is that line: the called functions unfold at their calls and sequencing re-associates. -/
theorem main_part16_eq (c : Dev nD) : main_part16 (F := F) c = StableHlo.seq ops_part16 := rfl

set_option maxRecDepth 16384 in
set_option maxHeartbeats 4000000 in
/-- Every operation of the window is good; the result's index is compared by computation. -/
theorem ops_part16_good : (ops_part16 : List (HloOp τ sig (Elt F))).Forall (Good 12) :=
  ⟨unary_good (h := by decide) .., binary_good (h := by decide) .., unary_good (h := by decide) .., unary_good (h := by decide) ..,
    binary_good (h := by decide) .., unary_good (h := by decide) .., nullary_good (h := by decide) .., binary_good (h := by decide) ..,
    unary_good (h := by decide) .., unary_good (h := by decide) .., binary_good (h := by decide) .., unary_good (h := by decide) ..,
    binary_good (h := by decide) .., nullary_good (h := by decide) .., unary_good (h := by decide) .., binary_good (h := by decide) ..,
    nullary_good (h := by decide) .., unary_good (h := by decide) .., binary_good (h := by decide) .., nullary_good (h := by decide) ..,
    unary_good (h := by decide) .., unary_good (h := by decide) .., ternary_good (h := by decide) .., unary_good (h := by decide) ..,
    nullary_good (h := by decide) .., unary_good (h := by decide) .., binary_good (h := by decide) .., ternary_good (h := by decide) ..,
    unary_good (h := by decide) .., binary_good (h := by decide) .., binary_good (h := by decide) .., unary_good (h := by decide) ..,
    binary_good (h := by decide) .., unary_good (h := by decide) .., binary_good (h := by decide) .., unary_good (h := by decide) ..,
    unary_good (h := by decide) .., unary_good (h := by decide) .., binary_good (h := by decide) .., nullary_good (h := by decide) ..,
    nullary_good (h := by decide) .., unary_good (h := by decide) .., binary_good (h := by decide) .., unary_good (h := by decide) ..,
    unary_good (h := by decide) .., binary_good (h := by decide) .., ternary_good (h := by decide) .., nullary_good (h := by decide) ..,
    binary_good (h := by decide) .., unary_good (h := by decide) .., binary_good (h := by decide) .., nullary_good (h := by decide) ..,
    binary_good (h := by decide) .., nullary_good (h := by decide) .., binary_good (h := by decide) .., binary_good (h := by decide) ..,
    unary_good (h := by decide) .., binary_good (h := by decide) .., nullary_good (h := by decide) .., binary_good (h := by decide) ..,
    unary_good (h := by decide) .., binary_good (h := by decide) .., nullary_good (h := by decide) .., unary_good (h := by decide) ..,
    binary_good (h := by decide) .., unary_good (h := by decide) .., binary_good (h := by decide) .., nullary_good (h := by decide) ..,
    unary_good (h := by decide) .., unary_good (h := by decide) .., ternary_good (h := by decide) .., nullary_good (h := by decide) ..,
    binary_good (h := by decide) .., nullary_good (h := by decide) .., unary_good (h := by decide) .., binary_good (h := by decide) ..,
    unary_good (h := by decide) .., unary_good (h := by decide) .., binary_good (h := by decide) .., unary_good (h := by decide) ..,
    nullary_good (h := by decide) .., binary_good (h := by decide) ..⟩

end Cert.ReferenceIdeal.Hand

end
-- ==== Proof.Ref.W17.lean ====
import proofs.«146970_j35948876268088_1_alg».proof.ReferenceIdeal.P04
import proofs.«146970_j35948876268088_1_alg».proof.Proof.Ref.Keep

noncomputable section

namespace Cert.ReferenceIdeal.Hand

open Cert.ReferenceIdeal Idealize.ShloMosaic Idealize.ShloMosaic.TcCoe Idealize.SL.Sem Idealize.ShloMosaic.StableHlo

variable {F : FTy → Type} [FloatOps F]

variable [Facts]
open Facts₀ Facts

set_option maxHeartbeats 4000000 in
/-- The operations of window 17, in order; a called function's operations stand in its call's place. -/
abbrev ops_part17 : List (HloOp τ sig (Elt F)) :=
  [ StableHlo.unary main_v839 main_v840 (broadcastInDim S2048x1 ![0] bcast_S2048_S2048x1_0 : (⟨S2048, .f32⟩ : BufTy).Contents (Elt F) → (⟨S2048x1, .f32⟩ : BufTy).Contents (Elt F)),
    StableHlo.unary main_v840 main_v841 (broadcastInDim S2048x2048 ![0, 1] bcast_S2048x1_S2048x2048_0_1 : (⟨S2048x1, .f32⟩ : BufTy).Contents (Elt F) → (⟨S2048x2048, .f32⟩ : BufTy).Contents (Elt F)),
    StableHlo.binary main_v838 main_v841 main_v842 (Host.divf : (⟨S2048x2048, .f32⟩ : BufTy).Contents (Elt F) → (⟨S2048x2048, .f32⟩ : BufTy).Contents (Elt F) → (⟨S2048x2048, .f32⟩ : BufTy).Contents (Elt F)),
    StableHlo.unary main_v842 main_v843 ((transpose S2048x2048 [1, 0] · transposes_S2048x2048_S2048x2048_1_0) : (⟨S2048x2048, .f32⟩ : BufTy).Contents (Elt F) → (⟨S2048x2048, .f32⟩ : BufTy).Contents (Elt F)),
    StableHlo.binary main_v843 main_v803 main_v844 ((fun l r => Host.dotGeneral dot_S2048x2048_S2048x8_S2048x8_1_0_0_1_n_n none l r) : (⟨S2048x2048, .f32⟩ : BufTy).Contents (Elt F) → (⟨S2048x8, .f32⟩ : BufTy).Contents (Elt F) → (⟨S2048x8, .f32⟩ : BufTy).Contents (Elt F)),
    StableHlo.TRef.nullary main_call34.cst (constant S_ .f32 0x00000000#32),
    StableHlo.TRef.unary main_call34.cst main_call34.v0 (broadcastInDim S2048x8 ![] bcast_S_S2048x8),
    StableHlo.TRef.binary (StableHlo.TRef.of (T := ⟨S2048x8, .f32⟩) main_v844) main_call34.v0 main_call34.v1 (cmpf .ogt),
    StableHlo.TRef.nullary main_call34.cst_0 (constant S_ .f32 0x00000000#32),
    StableHlo.TRef.unary main_call34.cst_0 main_call34.v2 (broadcastInDim S2048x8 ![] bcast_S_S2048x8),
    StableHlo.TRef.binary (StableHlo.TRef.of (T := ⟨S2048x8, .f32⟩) main_v844) main_call34.v2 main_call34.v3 (cmpf .ogt),
    StableHlo.TRef.nullary main_call34.cst_1 (constant S_ .f32 0x00000000#32),
    StableHlo.TRef.unary main_call34.cst_1 main_call34.call0.v0 id,
    StableHlo.TRef.unary main_call34.call0.v0 main_call34.call0.v1 (broadcastInDim S2048x8 ![] bcast_S_S2048x8),
    StableHlo.TRef.ternary main_call34.v3 main_call34.call0.v1 (StableHlo.TRef.of (T := ⟨S2048x8, .f32⟩) main_v844) main_call34.call0.v2 select,
    StableHlo.TRef.unary main_call34.call0.v2 main_call34.v5 Host.expm1,
    StableHlo.TRef.nullary main_call34.cst_2 (constant S_ .f32 0x3F800000#32),
    StableHlo.TRef.unary main_call34.cst_2 main_call34.v6 (broadcastInDim S2048x8 ![] bcast_S_S2048x8),
    StableHlo.TRef.binary main_call34.v6 main_call34.v5 main_call34.v7 mulf,
    StableHlo.TRef.ternary main_call34.v1 (StableHlo.TRef.of (T := ⟨S2048x8, .f32⟩) main_v844) main_call34.v7 main_call34.call1.v0 select,
    StableHlo.unary main_v721 main_v846 ((extractStridedSlice S16x1 ![0, 1] · slices_S16x8_S16x1_0_1) : (⟨S16x8, .f32⟩ : BufTy).Contents (Elt F) → (⟨S16x1, .f32⟩ : BufTy).Contents (Elt F)),
    StableHlo.unary main_v721 main_v847 ((extractStridedSlice S16x1 ![0, 5] · slices_S16x8_S16x1_0_5) : (⟨S16x8, .f32⟩ : BufTy).Contents (Elt F) → (⟨S16x1, .f32⟩ : BufTy).Contents (Elt F)),
    StableHlo.unary main_arg4 main_v848 ((extractStridedSlice S1x256x8 ![1, 0, 0] · slices_S4x256x8_S1x256x8_1_0_0) : (⟨S4x256x8, .f32⟩ : BufTy).Contents (Elt F) → (⟨S1x256x8, .f32⟩ : BufTy).Contents (Elt F)),
    StableHlo.reshape main_v848 main_v849 rfl shapeCasts_S1x256x8_S256x8,
    StableHlo.binary main_v96 main_v96 main_v850 (mulf : (⟨S2048x256, .f32⟩ : BufTy).Contents (Elt F) → (⟨S2048x256, .f32⟩ : BufTy).Contents (Elt F) → (⟨S2048x256, .f32⟩ : BufTy).Contents (Elt F)),
    StableHlo.nullary main_cst_178 (constant S_ .f32 0x00000000#32),
    StableHlo.binary main_v850 main_cst_178 main_v851 ((fun x v => Host.reduceAdd x v reducesTo_S2048x256_S2048_d1 h_S_) : (⟨S2048x256, .f32⟩ : BufTy).Contents (Elt F) → (⟨S_, .f32⟩ : BufTy).Contents (Elt F) → (⟨S2048, .f32⟩ : BufTy).Contents (Elt F)),
    StableHlo.unary main_v851 main_v852 (Host.sqrt : (⟨S2048, .f32⟩ : BufTy).Contents (Elt F) → (⟨S2048, .f32⟩ : BufTy).Contents (Elt F)),
    StableHlo.unary main_v96 main_v853 ((transpose S256x2048 [1, 0] · transposes_S2048x256_S256x2048_1_0) : (⟨S2048x256, .f32⟩ : BufTy).Contents (Elt F) → (⟨S256x2048, .f32⟩ : BufTy).Contents (Elt F)),
    StableHlo.binary main_v96 main_v853 main_v854 ((fun l r => Host.dotGeneral dot_S2048x256_S256x2048_S2048x2048_1_0_0_1_n_n none l r) : (⟨S2048x256, .f32⟩ : BufTy).Contents (Elt F) → (⟨S256x2048, .f32⟩ : BufTy).Contents (Elt F) → (⟨S2048x2048, .f32⟩ : BufTy).Contents (Elt F)),
    StableHlo.unary main_v852 main_v855 (broadcastInDim S2048x1 ![0] bcast_S2048_S2048x1_0 : (⟨S2048, .f32⟩ : BufTy).Contents (Elt F) → (⟨S2048x1, .f32⟩ : BufTy).Contents (Elt F)),
    StableHlo.unary main_v852 main_v856 (broadcastInDim S1x2048 ![1] bcast_S2048_S1x2048_1 : (⟨S2048, .f32⟩ : BufTy).Contents (Elt F) → (⟨S1x2048, .f32⟩ : BufTy).Contents (Elt F)),
    StableHlo.unary main_v855 main_v857 (broadcastInDim S2048x2048 ![0, 1] bcast_S2048x1_S2048x2048_0_1 : (⟨S2048x1, .f32⟩ : BufTy).Contents (Elt F) → (⟨S2048x2048, .f32⟩ : BufTy).Contents (Elt F)),
    StableHlo.unary main_v856 main_v858 (broadcastInDim S2048x2048 ![0, 1] bcast_S1x2048_S2048x2048_0_1 : (⟨S1x2048, .f32⟩ : BufTy).Contents (Elt F) → (⟨S2048x2048, .f32⟩ : BufTy).Contents (Elt F)),
    StableHlo.binary main_v857 main_v858 main_v859 (mulf : (⟨S2048x2048, .f32⟩ : BufTy).Contents (Elt F) → (⟨S2048x2048, .f32⟩ : BufTy).Contents (Elt F) → (⟨S2048x2048, .f32⟩ : BufTy).Contents (Elt F)),
    StableHlo.binary main_v854 main_v859 main_v860 (Host.divf : (⟨S2048x2048, .f32⟩ : BufTy).Contents (Elt F) → (⟨S2048x2048, .f32⟩ : BufTy).Contents (Elt F) → (⟨S2048x2048, .f32⟩ : BufTy).Contents (Elt F)),
    StableHlo.nullary main_v861 (iotaInDim S2048x2048 32 0),
    StableHlo.nullary main_v862 (iotaInDim S2048x2048 32 1),
    StableHlo.nullary main_c_179 (constantI S_ 32 0#32),
    StableHlo.unary main_c_179 main_v863 (broadcastInDim S2048x2048 ![] bcast_S_S2048x2048 : (⟨S_, .i32⟩ : BufTy).Contents (Elt F) → (⟨S2048x2048, .i32⟩ : BufTy).Contents (Elt F)),
    StableHlo.binary main_v861 main_v863 main_v864 (addi : (⟨S2048x2048, .i32⟩ : BufTy).Contents (Elt F) → (⟨S2048x2048, .i32⟩ : BufTy).Contents (Elt F) → (⟨S2048x2048, .i32⟩ : BufTy).Contents (Elt F)),
    StableHlo.binary main_v864 main_v862 main_v865 (cmpi .eq : (⟨S2048x2048, .i32⟩ : BufTy).Contents (Elt F) → (⟨S2048x2048, .i32⟩ : BufTy).Contents (Elt F) → (⟨S2048x2048, .i1⟩ : BufTy).Contents (Elt F)),
    StableHlo.unary main_v865 main_v866 (uitofp .f32 : (⟨S2048x2048, .i1⟩ : BufTy).Contents (Elt F) → (⟨S2048x2048, .f32⟩ : BufTy).Contents (Elt F)),
    StableHlo.nullary main_cst_180 (constant S_ .f32 0x3F800000#32),
    StableHlo.unary main_cst_180 main_v867 (broadcastInDim S2048x2048 ![] bcast_S_S2048x2048 : (⟨S_, .f32⟩ : BufTy).Contents (Elt F) → (⟨S2048x2048, .f32⟩ : BufTy).Contents (Elt F)),
    StableHlo.binary main_v867 main_v866 main_v868 (subf : (⟨S2048x2048, .f32⟩ : BufTy).Contents (Elt F) → (⟨S2048x2048, .f32⟩ : BufTy).Contents (Elt F) → (⟨S2048x2048, .f32⟩ : BufTy).Contents (Elt F)),
    StableHlo.nullary main_cst_181 (constant S_ .f32 0x3F000000#32),
    StableHlo.unary main_cst_181 main_v869 (broadcastInDim S2048x2048 ![] bcast_S_S2048x2048 : (⟨S_, .f32⟩ : BufTy).Contents (Elt F) → (⟨S2048x2048, .f32⟩ : BufTy).Contents (Elt F)),
    StableHlo.binary main_v860 main_v869 main_v870 (cmpf .ogt : (⟨S2048x2048, .f32⟩ : BufTy).Contents (Elt F) → (⟨S2048x2048, .f32⟩ : BufTy).Contents (Elt F) → (⟨S2048x2048, .i1⟩ : BufTy).Contents (Elt F)),
    StableHlo.nullary main_cst_182 (constant S_ .f32 0x00000000#32),
    StableHlo.TRef.unary (StableHlo.TRef.of (T := ⟨S_, .f32⟩) main_cst_182) main_call35.v0 id,
    StableHlo.TRef.unary main_call35.v0 main_call35.v1 (broadcastInDim S2048x2048 ![] bcast_S_S2048x2048),
    StableHlo.TRef.ternary (StableHlo.TRef.of (T := ⟨S2048x2048, .i1⟩) main_v870) (StableHlo.TRef.of (T := ⟨S2048x2048, .f32⟩) main_v860) main_call35.v1 main_call35.v2 select,
    StableHlo.binary main_v871 main_v868 main_v872 (mulf : (⟨S2048x2048, .f32⟩ : BufTy).Contents (Elt F) → (⟨S2048x2048, .f32⟩ : BufTy).Contents (Elt F) → (⟨S2048x2048, .f32⟩ : BufTy).Contents (Elt F)),
    StableHlo.unary main_v74 main_v873 ((transpose S2048x2048 [1, 0] · transposes_S2048x2048_S2048x2048_1_0) : (⟨S2048x2048, .f32⟩ : BufTy).Contents (Elt F) → (⟨S2048x2048, .f32⟩ : BufTy).Contents (Elt F)),
    StableHlo.binary main_v74 main_v873 main_v874 ((fun l r => Host.dotGeneral dot_S2048x2048_S2048x2048_S2048x2048_1_0_0_1_n_n none l r) : (⟨S2048x2048, .f32⟩ : BufTy).Contents (Elt F) → (⟨S2048x2048, .f32⟩ : BufTy).Contents (Elt F) → (⟨S2048x2048, .f32⟩ : BufTy).Contents (Elt F)),
    StableHlo.nullary main_cst_183 (constant S_ .f32 0x00000000#32),
    StableHlo.unary main_cst_183 main_v875 (broadcastInDim S2048x2048 ![] bcast_S_S2048x2048 : (⟨S_, .f32⟩ : BufTy).Contents (Elt F) → (⟨S2048x2048, .f32⟩ : BufTy).Contents (Elt F)),
    StableHlo.binary main_v874 main_v875 main_v876 (cmpf .ogt : (⟨S2048x2048, .f32⟩ : BufTy).Contents (Elt F) → (⟨S2048x2048, .f32⟩ : BufTy).Contents (Elt F) → (⟨S2048x2048, .i1⟩ : BufTy).Contents (Elt F)),
    StableHlo.unary main_v876 main_v877 (uitofp .f32 : (⟨S2048x2048, .i1⟩ : BufTy).Contents (Elt F) → (⟨S2048x2048, .f32⟩ : BufTy).Contents (Elt F)),
    StableHlo.binary main_v877 main_v868 main_v878 (mulf : (⟨S2048x2048, .f32⟩ : BufTy).Contents (Elt F) → (⟨S2048x2048, .f32⟩ : BufTy).Contents (Elt F) → (⟨S2048x2048, .f32⟩ : BufTy).Contents (Elt F)),
    StableHlo.binary main_v872 main_v878 main_v879 (mulf : (⟨S2048x2048, .f32⟩ : BufTy).Contents (Elt F) → (⟨S2048x2048, .f32⟩ : BufTy).Contents (Elt F) → (⟨S2048x2048, .f32⟩ : BufTy).Contents (Elt F)),
    StableHlo.nullary main_cst_184 (constant S_ .f32 0x00000000#32),
    StableHlo.binary main_v879 main_cst_184 main_v880 ((fun x v => Host.reduceAdd x v reducesTo_S2048x2048_S2048_d1 h_S_) : (⟨S2048x2048, .f32⟩ : BufTy).Contents (Elt F) → (⟨S_, .f32⟩ : BufTy).Contents (Elt F) → (⟨S2048, .f32⟩ : BufTy).Contents (Elt F)),
    StableHlo.unary main_v880 main_v881 (broadcastInDim S2048x1 ![0] bcast_S2048_S2048x1_0 : (⟨S2048, .f32⟩ : BufTy).Contents (Elt F) → (⟨S2048x1, .f32⟩ : BufTy).Contents (Elt F)),
    StableHlo.unary main_v881 main_v882 (broadcastInDim S2048x2048 ![0, 1] bcast_S2048x1_S2048x2048_0_1 : (⟨S2048x1, .f32⟩ : BufTy).Contents (Elt F) → (⟨S2048x2048, .f32⟩ : BufTy).Contents (Elt F)),
    StableHlo.binary main_v74 main_v882 main_v883 (mulf : (⟨S2048x2048, .f32⟩ : BufTy).Contents (Elt F) → (⟨S2048x2048, .f32⟩ : BufTy).Contents (Elt F) → (⟨S2048x2048, .f32⟩ : BufTy).Contents (Elt F)),
    StableHlo.nullary main_cst_185 (constant S_ .f32 0x00000000#32),
    StableHlo.binary main_v883 main_cst_185 main_v884 ((fun x v => Host.reduceAdd x v reducesTo_S2048x2048_S2048_d0 h_S_) : (⟨S2048x2048, .f32⟩ : BufTy).Contents (Elt F) → (⟨S_, .f32⟩ : BufTy).Contents (Elt F) → (⟨S2048, .f32⟩ : BufTy).Contents (Elt F)),
    StableHlo.unary main_v884 main_v885 (broadcastInDim S2048x1 ![0] bcast_S2048_S2048x1_0 : (⟨S2048, .f32⟩ : BufTy).Contents (Elt F) → (⟨S2048x1, .f32⟩ : BufTy).Contents (Elt F)),
    StableHlo.binary main_v96 main_v849 main_v886 ((fun l r => Host.dotGeneral dot_S2048x256_S256x8_S2048x8_1_0_0_1_n_n none l r) : (⟨S2048x256, .f32⟩ : BufTy).Contents (Elt F) → (⟨S256x8, .f32⟩ : BufTy).Contents (Elt F) → (⟨S2048x8, .f32⟩ : BufTy).Contents (Elt F)),
    StableHlo.binary main_v96 main_v849 main_v887 ((fun l r => Host.dotGeneral dot_S2048x256_S256x8_S2048x8_1_0_0_1_n_n none l r) : (⟨S2048x256, .f32⟩ : BufTy).Contents (Elt F) → (⟨S256x8, .f32⟩ : BufTy).Contents (Elt F) → (⟨S2048x8, .f32⟩ : BufTy).Contents (Elt F)),
    StableHlo.binary main_v89 main_v849 main_v888 ((fun l r => Host.dotGeneral dot_S2048x256_S256x8_S2048x8_1_0_0_1_n_n none l r) : (⟨S2048x256, .f32⟩ : BufTy).Contents (Elt F) → (⟨S256x8, .f32⟩ : BufTy).Contents (Elt F) → (⟨S2048x8, .f32⟩ : BufTy).Contents (Elt F)),
    StableHlo.unary main_v846 main_v889 ((extractStridedSlice S8x1 ![0, 0] · slices_S16x1_S8x1_0_0) : (⟨S16x1, .f32⟩ : BufTy).Contents (Elt F) → (⟨S8x1, .f32⟩ : BufTy).Contents (Elt F)),
    StableHlo.binary main_v887 main_v889 main_v890 ((fun l r => Host.dotGeneral dot_S2048x8_S8x1_S2048x1_1_0_0_1_n_n none l r) : (⟨S2048x8, .f32⟩ : BufTy).Contents (Elt F) → (⟨S8x1, .f32⟩ : BufTy).Contents (Elt F) → (⟨S2048x1, .f32⟩ : BufTy).Contents (Elt F)),
    StableHlo.unary main_v846 main_v891 ((extractStridedSlice S8x1 ![8, 0] · slices_S16x1_S8x1_8_0) : (⟨S16x1, .f32⟩ : BufTy).Contents (Elt F) → (⟨S8x1, .f32⟩ : BufTy).Contents (Elt F)) ]

set_option maxRecDepth 16384 in
set_option maxHeartbeats 4000000 in
/-- The window is that line: the called functions unfold at their calls and sequencing re-associates. -/
theorem main_part17_eq (c : Dev nD) : main_part17 (F := F) c = StableHlo.seq ops_part17 := rfl

set_option maxRecDepth 16384 in
set_option maxHeartbeats 4000000 in
/-- Every operation of the window is good; the result's index is compared by computation. -/
theorem ops_part17_good : (ops_part17 : List (HloOp τ sig (Elt F))).Forall (Good 12) :=
  ⟨unary_good (h := by decide) .., unary_good (h := by decide) .., binary_good (h := by decide) .., unary_good (h := by decide) ..,
    binary_good (h := by decide) .., nullary_good (h := by decide) .., unary_good (h := by decide) .., binary_good (h := by decide) ..,
    nullary_good (h := by decide) .., unary_good (h := by decide) .., binary_good (h := by decide) .., nullary_good (h := by decide) ..,
    unary_good (h := by decide) .., unary_good (h := by decide) .., ternary_good (h := by decide) .., unary_good (h := by decide) ..,
    nullary_good (h := by decide) .., unary_good (h := by decide) .., binary_good (h := by decide) .., ternary_good (h := by decide) ..,
    unary_good (h := by decide) .., unary_good (h := by decide) .., unary_good (h := by decide) .., reshape_good (h := by decide) ..,
    binary_good (h := by decide) .., nullary_good (h := by decide) .., binary_good (h := by decide) .., unary_good (h := by decide) ..,
    unary_good (h := by decide) .., binary_good (h := by decide) .., unary_good (h := by decide) .., unary_good (h := by decide) ..,
    unary_good (h := by decide) .., unary_good (h := by decide) .., binary_good (h := by decide) .., binary_good (h := by decide) ..,
    nullary_good (h := by decide) .., nullary_good (h := by decide) .., nullary_good (h := by decide) .., unary_good (h := by decide) ..,
    binary_good (h := by decide) .., binary_good (h := by decide) .., unary_good (h := by decide) .., nullary_good (h := by decide) ..,
    unary_good (h := by decide) .., binary_good (h := by decide) .., nullary_good (h := by decide) .., unary_good (h := by decide) ..,
    binary_good (h := by decide) .., nullary_good (h := by decide) .., unary_good (h := by decide) .., unary_good (h := by decide) ..,
    ternary_good (h := by decide) .., binary_good (h := by decide) .., unary_good (h := by decide) .., binary_good (h := by decide) ..,
    nullary_good (h := by decide) .., unary_good (h := by decide) .., binary_good (h := by decide) .., unary_good (h := by decide) ..,
    binary_good (h := by decide) .., binary_good (h := by decide) .., nullary_good (h := by decide) .., binary_good (h := by decide) ..,
    unary_good (h := by decide) .., unary_good (h := by decide) .., binary_good (h := by decide) .., nullary_good (h := by decide) ..,
    binary_good (h := by decide) .., unary_good (h := by decide) .., binary_good (h := by decide) .., binary_good (h := by decide) ..,
    binary_good (h := by decide) .., unary_good (h := by decide) .., binary_good (h := by decide) .., unary_good (h := by decide) ..⟩

end Cert.ReferenceIdeal.Hand

end
-- ==== Proof.Ref.W18.lean ====
import proofs.«146970_j35948876268088_1_alg».proof.ReferenceIdeal.P04
import proofs.«146970_j35948876268088_1_alg».proof.Proof.Ref.Keep

noncomputable section

namespace Cert.ReferenceIdeal.Hand

open Cert.ReferenceIdeal Idealize.ShloMosaic Idealize.ShloMosaic.TcCoe Idealize.SL.Sem Idealize.ShloMosaic.StableHlo

variable {F : FTy → Type} [FloatOps F]

variable [Facts]
open Facts₀ Facts

set_option maxHeartbeats 4000000 in
/-- The operations of window 18, in order; a called function's operations stand in its call's place. -/
abbrev ops_part18 : List (HloOp τ sig (Elt F)) :=
  [ StableHlo.binary main_v888 main_v891 main_v892 ((fun l r => Host.dotGeneral dot_S2048x8_S8x1_S2048x1_1_0_0_1_n_n none l r) : (⟨S2048x8, .f32⟩ : BufTy).Contents (Elt F) → (⟨S8x1, .f32⟩ : BufTy).Contents (Elt F) → (⟨S2048x1, .f32⟩ : BufTy).Contents (Elt F)),
    StableHlo.unary main_v892 main_v893 ((transpose S1x2048 [1, 0] · transposes_S2048x1_S1x2048_1_0) : (⟨S2048x1, .f32⟩ : BufTy).Contents (Elt F) → (⟨S1x2048, .f32⟩ : BufTy).Contents (Elt F)),
    StableHlo.unary main_v890 main_v894 (broadcastInDim S2048x2048 ![0, 1] bcast_S2048x1_S2048x2048_0_1 : (⟨S2048x1, .f32⟩ : BufTy).Contents (Elt F) → (⟨S2048x2048, .f32⟩ : BufTy).Contents (Elt F)),
    StableHlo.unary main_v893 main_v895 (broadcastInDim S2048x2048 ![0, 1] bcast_S1x2048_S2048x2048_0_1 : (⟨S1x2048, .f32⟩ : BufTy).Contents (Elt F) → (⟨S2048x2048, .f32⟩ : BufTy).Contents (Elt F)),
    StableHlo.binary main_v894 main_v895 main_v896 (addf : (⟨S2048x2048, .f32⟩ : BufTy).Contents (Elt F) → (⟨S2048x2048, .f32⟩ : BufTy).Contents (Elt F) → (⟨S2048x2048, .f32⟩ : BufTy).Contents (Elt F)),
    StableHlo.nullary main_cst_186 (constant S_ .f32 0x3E4CCCCD#32),
    StableHlo.TRef.nullary main_call36.cst (constant S_ .f32 0x00000000#32),
    StableHlo.TRef.unary main_call36.cst main_call36.v0 (broadcastInDim S2048x2048 ![] bcast_S_S2048x2048),
    StableHlo.TRef.binary (StableHlo.TRef.of (T := ⟨S2048x2048, .f32⟩) main_v896) main_call36.v0 main_call36.v1 (cmpf .oge),
    StableHlo.TRef.unary (StableHlo.TRef.of (T := ⟨S_, .f32⟩) main_cst_186) main_call36.v2 id,
    StableHlo.TRef.unary main_call36.v2 main_call36.v3 (broadcastInDim S2048x2048 ![] bcast_S_S2048x2048),
    StableHlo.TRef.binary main_call36.v3 (StableHlo.TRef.of (T := ⟨S2048x2048, .f32⟩) main_v896) main_call36.v4 mulf,
    StableHlo.TRef.ternary main_call36.v1 (StableHlo.TRef.of (T := ⟨S2048x2048, .f32⟩) main_v896) main_call36.v4 main_call36.call0.v0 select,
    StableHlo.nullary main_cst_187 (constant S_ .f32 0x7F800000#32),
    StableHlo.binary main_v881 main_cst_187 main_v898 ((fun x v => Host.reduce FloatOps.minimumf x v reducesTo_S2048x1_S_d0_1 h_S_) : (⟨S2048x1, .f32⟩ : BufTy).Contents (Elt F) → (⟨S_, .f32⟩ : BufTy).Contents (Elt F) → (⟨S_, .f32⟩ : BufTy).Contents (Elt F)),
    StableHlo.unary main_v898 main_v899 (broadcastInDim S2048x1 ![] bcast_S_S2048x1 : (⟨S_, .f32⟩ : BufTy).Contents (Elt F) → (⟨S2048x1, .f32⟩ : BufTy).Contents (Elt F)),
    StableHlo.binary main_v881 main_v899 main_v900 (subf : (⟨S2048x1, .f32⟩ : BufTy).Contents (Elt F) → (⟨S2048x1, .f32⟩ : BufTy).Contents (Elt F) → (⟨S2048x1, .f32⟩ : BufTy).Contents (Elt F)),
    StableHlo.nullary main_cst_188 (constant S_ .f32 0xFF800000#32),
    StableHlo.binary main_v881 main_cst_188 main_v901 ((fun x v => Host.reduce FloatOps.maximumf x v reducesTo_S2048x1_S_d0_1 h_S_) : (⟨S2048x1, .f32⟩ : BufTy).Contents (Elt F) → (⟨S_, .f32⟩ : BufTy).Contents (Elt F) → (⟨S_, .f32⟩ : BufTy).Contents (Elt F)),
    StableHlo.nullary main_cst_189 (constant S_ .f32 0x7F800000#32),
    StableHlo.binary main_v881 main_cst_189 main_v902 ((fun x v => Host.reduce FloatOps.minimumf x v reducesTo_S2048x1_S_d0_1 h_S_) : (⟨S2048x1, .f32⟩ : BufTy).Contents (Elt F) → (⟨S_, .f32⟩ : BufTy).Contents (Elt F) → (⟨S_, .f32⟩ : BufTy).Contents (Elt F)),
    StableHlo.binary main_v901 main_v902 main_v903 (subf : (⟨S_, .f32⟩ : BufTy).Contents (Elt F) → (⟨S_, .f32⟩ : BufTy).Contents (Elt F) → (⟨S_, .f32⟩ : BufTy).Contents (Elt F)),
    StableHlo.unary main_v903 main_v904 (broadcastInDim S2048x1 ![] bcast_S_S2048x1 : (⟨S_, .f32⟩ : BufTy).Contents (Elt F) → (⟨S2048x1, .f32⟩ : BufTy).Contents (Elt F)),
    StableHlo.binary main_v900 main_v904 main_v905 (Host.divf : (⟨S2048x1, .f32⟩ : BufTy).Contents (Elt F) → (⟨S2048x1, .f32⟩ : BufTy).Contents (Elt F) → (⟨S2048x1, .f32⟩ : BufTy).Contents (Elt F)),
    StableHlo.nullary main_cst_190 (constant S_ .f32 0xFF800000#32),
    StableHlo.binary main_v897 main_cst_190 main_v906 ((fun x v => Host.reduce FloatOps.maximumf x v reducesTo_S2048x2048_S_d0_1 h_S_) : (⟨S2048x2048, .f32⟩ : BufTy).Contents (Elt F) → (⟨S_, .f32⟩ : BufTy).Contents (Elt F) → (⟨S_, .f32⟩ : BufTy).Contents (Elt F)),
    StableHlo.unary main_v906 main_v907 (broadcastInDim S2048x1 ![] bcast_S_S2048x1 : (⟨S_, .f32⟩ : BufTy).Contents (Elt F) → (⟨S2048x1, .f32⟩ : BufTy).Contents (Elt F)),
    StableHlo.binary main_v905 main_v907 main_v908 (mulf : (⟨S2048x1, .f32⟩ : BufTy).Contents (Elt F) → (⟨S2048x1, .f32⟩ : BufTy).Contents (Elt F) → (⟨S2048x1, .f32⟩ : BufTy).Contents (Elt F)),
    StableHlo.nullary main_cst_191 (constant S_ .f32 0x00000000#32),
    StableHlo.unary main_cst_191 main_v909 (broadcastInDim S2048x2048 ![] bcast_S_S2048x2048 : (⟨S_, .f32⟩ : BufTy).Contents (Elt F) → (⟨S2048x2048, .f32⟩ : BufTy).Contents (Elt F)),
    StableHlo.binary main_v74 main_v909 main_v910 (cmpf .ogt : (⟨S2048x2048, .f32⟩ : BufTy).Contents (Elt F) → (⟨S2048x2048, .f32⟩ : BufTy).Contents (Elt F) → (⟨S2048x2048, .i1⟩ : BufTy).Contents (Elt F)),
    StableHlo.unary main_v908 main_v911 (broadcastInDim S2048x2048 ![0, 1] bcast_S2048x1_S2048x2048_0_1 : (⟨S2048x1, .f32⟩ : BufTy).Contents (Elt F) → (⟨S2048x2048, .f32⟩ : BufTy).Contents (Elt F)),
    StableHlo.binary main_v897 main_v911 main_v912 (addf : (⟨S2048x2048, .f32⟩ : BufTy).Contents (Elt F) → (⟨S2048x2048, .f32⟩ : BufTy).Contents (Elt F) → (⟨S2048x2048, .f32⟩ : BufTy).Contents (Elt F)),
    StableHlo.nullary main_cst_192 (constant S_ .f32 0xD368D4A5#32),
    StableHlo.TRef.unary (StableHlo.TRef.of (T := ⟨S_, .f32⟩) main_cst_192) main_call37.v0 id,
    StableHlo.TRef.unary main_call37.v0 main_call37.v1 (broadcastInDim S2048x2048 ![] bcast_S_S2048x2048),
    StableHlo.TRef.ternary (StableHlo.TRef.of (T := ⟨S2048x2048, .i1⟩) main_v910) (StableHlo.TRef.of (T := ⟨S2048x2048, .f32⟩) main_v912) main_call37.v1 main_call37.v2 select,
    StableHlo.nullary main_cst_193 (constant S_ .f32 0xFF800000#32),
    StableHlo.binary main_v913 main_cst_193 main_v914 ((fun x v => Host.reduce FloatOps.maximumf x v reducesTo_S2048x2048_S2048_d1 h_S_) : (⟨S2048x2048, .f32⟩ : BufTy).Contents (Elt F) → (⟨S_, .f32⟩ : BufTy).Contents (Elt F) → (⟨S2048, .f32⟩ : BufTy).Contents (Elt F)),
    StableHlo.nullary main_cst_194 (constant S_ .f32 0xFF800000#32),
    StableHlo.unary main_cst_194 main_v915 (broadcastInDim S2048 ![] bcast_S_S2048 : (⟨S_, .f32⟩ : BufTy).Contents (Elt F) → (⟨S2048, .f32⟩ : BufTy).Contents (Elt F)),
    StableHlo.binary main_v915 main_v914 main_v916 (maximumf : (⟨S2048, .f32⟩ : BufTy).Contents (Elt F) → (⟨S2048, .f32⟩ : BufTy).Contents (Elt F) → (⟨S2048, .f32⟩ : BufTy).Contents (Elt F)),
    StableHlo.unary main_v916 main_v917 (broadcastInDim S2048x1 ![0] bcast_S2048_S2048x1_0 : (⟨S2048, .f32⟩ : BufTy).Contents (Elt F) → (⟨S2048x1, .f32⟩ : BufTy).Contents (Elt F)),
    StableHlo.unary main_v917 main_v918 (broadcastInDim S2048x2048 ![0, 1] bcast_S2048x1_S2048x2048_0_1 : (⟨S2048x1, .f32⟩ : BufTy).Contents (Elt F) → (⟨S2048x2048, .f32⟩ : BufTy).Contents (Elt F)),
    StableHlo.binary main_v913 main_v918 main_v919 (subf : (⟨S2048x2048, .f32⟩ : BufTy).Contents (Elt F) → (⟨S2048x2048, .f32⟩ : BufTy).Contents (Elt F) → (⟨S2048x2048, .f32⟩ : BufTy).Contents (Elt F)),
    StableHlo.unary main_v919 main_v920 (Host.exp : (⟨S2048x2048, .f32⟩ : BufTy).Contents (Elt F) → (⟨S2048x2048, .f32⟩ : BufTy).Contents (Elt F)),
    StableHlo.nullary main_cst_195 (constant S_ .f32 0x00000000#32),
    StableHlo.binary main_v920 main_cst_195 main_v921 ((fun x v => Host.reduceAdd x v reducesTo_S2048x2048_S2048_d1 h_S_) : (⟨S2048x2048, .f32⟩ : BufTy).Contents (Elt F) → (⟨S_, .f32⟩ : BufTy).Contents (Elt F) → (⟨S2048, .f32⟩ : BufTy).Contents (Elt F)),
    StableHlo.unary main_v921 main_v922 (broadcastInDim S2048x1 ![0] bcast_S2048_S2048x1_0 : (⟨S2048, .f32⟩ : BufTy).Contents (Elt F) → (⟨S2048x1, .f32⟩ : BufTy).Contents (Elt F)),
    StableHlo.unary main_v922 main_v923 (broadcastInDim S2048x2048 ![0, 1] bcast_S2048x1_S2048x2048_0_1 : (⟨S2048x1, .f32⟩ : BufTy).Contents (Elt F) → (⟨S2048x2048, .f32⟩ : BufTy).Contents (Elt F)),
    StableHlo.binary main_v920 main_v923 main_v924 (Host.divf : (⟨S2048x2048, .f32⟩ : BufTy).Contents (Elt F) → (⟨S2048x2048, .f32⟩ : BufTy).Contents (Elt F) → (⟨S2048x2048, .f32⟩ : BufTy).Contents (Elt F)),
    StableHlo.unary main_v924 main_v925 ((transpose S2048x2048 [1, 0] · transposes_S2048x2048_S2048x2048_1_0) : (⟨S2048x2048, .f32⟩ : BufTy).Contents (Elt F) → (⟨S2048x2048, .f32⟩ : BufTy).Contents (Elt F)),
    StableHlo.binary main_v925 main_v886 main_v926 ((fun l r => Host.dotGeneral dot_S2048x2048_S2048x8_S2048x8_1_0_0_1_n_n none l r) : (⟨S2048x2048, .f32⟩ : BufTy).Contents (Elt F) → (⟨S2048x8, .f32⟩ : BufTy).Contents (Elt F) → (⟨S2048x8, .f32⟩ : BufTy).Contents (Elt F)),
    StableHlo.TRef.nullary main_call38.cst (constant S_ .f32 0x00000000#32),
    StableHlo.TRef.unary main_call38.cst main_call38.v0 (broadcastInDim S2048x8 ![] bcast_S_S2048x8),
    StableHlo.TRef.binary (StableHlo.TRef.of (T := ⟨S2048x8, .f32⟩) main_v926) main_call38.v0 main_call38.v1 (cmpf .ogt),
    StableHlo.TRef.nullary main_call38.cst_0 (constant S_ .f32 0x00000000#32),
    StableHlo.TRef.unary main_call38.cst_0 main_call38.v2 (broadcastInDim S2048x8 ![] bcast_S_S2048x8),
    StableHlo.TRef.binary (StableHlo.TRef.of (T := ⟨S2048x8, .f32⟩) main_v926) main_call38.v2 main_call38.v3 (cmpf .ogt),
    StableHlo.TRef.nullary main_call38.cst_1 (constant S_ .f32 0x00000000#32),
    StableHlo.TRef.unary main_call38.cst_1 main_call38.call0.v0 id,
    StableHlo.TRef.unary main_call38.call0.v0 main_call38.call0.v1 (broadcastInDim S2048x8 ![] bcast_S_S2048x8),
    StableHlo.TRef.ternary main_call38.v3 main_call38.call0.v1 (StableHlo.TRef.of (T := ⟨S2048x8, .f32⟩) main_v926) main_call38.call0.v2 select,
    StableHlo.TRef.unary main_call38.call0.v2 main_call38.v5 Host.expm1,
    StableHlo.TRef.nullary main_call38.cst_2 (constant S_ .f32 0x3F800000#32),
    StableHlo.TRef.unary main_call38.cst_2 main_call38.v6 (broadcastInDim S2048x8 ![] bcast_S_S2048x8),
    StableHlo.TRef.binary main_call38.v6 main_call38.v5 main_call38.v7 mulf,
    StableHlo.TRef.ternary main_call38.v1 (StableHlo.TRef.of (T := ⟨S2048x8, .f32⟩) main_v926) main_call38.v7 main_call38.call1.v0 select,
    StableHlo.unary main_v74 main_v928 ((transpose S2048x2048 [1, 0] · transposes_S2048x2048_S2048x2048_1_0) : (⟨S2048x2048, .f32⟩ : BufTy).Contents (Elt F) → (⟨S2048x2048, .f32⟩ : BufTy).Contents (Elt F)),
    StableHlo.binary main_v89 main_v849 main_v929 ((fun l r => Host.dotGeneral dot_S2048x256_S256x8_S2048x8_1_0_0_1_n_n none l r) : (⟨S2048x256, .f32⟩ : BufTy).Contents (Elt F) → (⟨S256x8, .f32⟩ : BufTy).Contents (Elt F) → (⟨S2048x8, .f32⟩ : BufTy).Contents (Elt F)),
    StableHlo.binary main_v96 main_v849 main_v930 ((fun l r => Host.dotGeneral dot_S2048x256_S256x8_S2048x8_1_0_0_1_n_n none l r) : (⟨S2048x256, .f32⟩ : BufTy).Contents (Elt F) → (⟨S256x8, .f32⟩ : BufTy).Contents (Elt F) → (⟨S2048x8, .f32⟩ : BufTy).Contents (Elt F)),
    StableHlo.unary main_v847 main_v931 ((extractStridedSlice S8x1 ![0, 0] · slices_S16x1_S8x1_0_0) : (⟨S16x1, .f32⟩ : BufTy).Contents (Elt F) → (⟨S8x1, .f32⟩ : BufTy).Contents (Elt F)),
    StableHlo.binary main_v929 main_v931 main_v932 ((fun l r => Host.dotGeneral dot_S2048x8_S8x1_S2048x1_1_0_0_1_n_n none l r) : (⟨S2048x8, .f32⟩ : BufTy).Contents (Elt F) → (⟨S8x1, .f32⟩ : BufTy).Contents (Elt F) → (⟨S2048x1, .f32⟩ : BufTy).Contents (Elt F)),
    StableHlo.unary main_v847 main_v933 ((extractStridedSlice S8x1 ![8, 0] · slices_S16x1_S8x1_8_0) : (⟨S16x1, .f32⟩ : BufTy).Contents (Elt F) → (⟨S8x1, .f32⟩ : BufTy).Contents (Elt F)),
    StableHlo.binary main_v930 main_v933 main_v934 ((fun l r => Host.dotGeneral dot_S2048x8_S8x1_S2048x1_1_0_0_1_n_n none l r) : (⟨S2048x8, .f32⟩ : BufTy).Contents (Elt F) → (⟨S8x1, .f32⟩ : BufTy).Contents (Elt F) → (⟨S2048x1, .f32⟩ : BufTy).Contents (Elt F)),
    StableHlo.unary main_v934 main_v935 ((transpose S1x2048 [1, 0] · transposes_S2048x1_S1x2048_1_0) : (⟨S2048x1, .f32⟩ : BufTy).Contents (Elt F) → (⟨S1x2048, .f32⟩ : BufTy).Contents (Elt F)),
    StableHlo.unary main_v932 main_v936 (broadcastInDim S2048x2048 ![0, 1] bcast_S2048x1_S2048x2048_0_1 : (⟨S2048x1, .f32⟩ : BufTy).Contents (Elt F) → (⟨S2048x2048, .f32⟩ : BufTy).Contents (Elt F)),
    StableHlo.unary main_v935 main_v937 (broadcastInDim S2048x2048 ![0, 1] bcast_S1x2048_S2048x2048_0_1 : (⟨S1x2048, .f32⟩ : BufTy).Contents (Elt F) → (⟨S2048x2048, .f32⟩ : BufTy).Contents (Elt F)),
    StableHlo.binary main_v936 main_v937 main_v938 (addf : (⟨S2048x2048, .f32⟩ : BufTy).Contents (Elt F) → (⟨S2048x2048, .f32⟩ : BufTy).Contents (Elt F) → (⟨S2048x2048, .f32⟩ : BufTy).Contents (Elt F)),
    StableHlo.nullary main_cst_196 (constant S_ .f32 0x3E4CCCCD#32),
    StableHlo.TRef.nullary main_call39.cst (constant S_ .f32 0x00000000#32),
    StableHlo.TRef.unary main_call39.cst main_call39.v0 (broadcastInDim S2048x2048 ![] bcast_S_S2048x2048),
    StableHlo.TRef.binary (StableHlo.TRef.of (T := ⟨S2048x2048, .f32⟩) main_v938) main_call39.v0 main_call39.v1 (cmpf .oge),
    StableHlo.TRef.unary (StableHlo.TRef.of (T := ⟨S_, .f32⟩) main_cst_196) main_call39.v2 id,
    StableHlo.TRef.unary main_call39.v2 main_call39.v3 (broadcastInDim S2048x2048 ![] bcast_S_S2048x2048),
    StableHlo.TRef.binary main_call39.v3 (StableHlo.TRef.of (T := ⟨S2048x2048, .f32⟩) main_v938) main_call39.v4 mulf,
    StableHlo.TRef.ternary main_call39.v1 (StableHlo.TRef.of (T := ⟨S2048x2048, .f32⟩) main_v938) main_call39.v4 main_call39.call0.v0 select,
    StableHlo.nullary main_cst_197 (constant S_ .f32 0x7F800000#32) ]

set_option maxRecDepth 16384 in
set_option maxHeartbeats 4000000 in
/-- The window is that line: the called functions unfold at their calls and sequencing re-associates. -/
theorem main_part18_eq (c : Dev nD) : main_part18 (F := F) c = StableHlo.seq ops_part18 := rfl

set_option maxRecDepth 16384 in
set_option maxHeartbeats 4000000 in
/-- Every operation of the window is good; the result's index is compared by computation. -/
theorem ops_part18_good : (ops_part18 : List (HloOp τ sig (Elt F))).Forall (Good 12) :=
  ⟨binary_good (h := by decide) .., unary_good (h := by decide) .., unary_good (h := by decide) .., unary_good (h := by decide) ..,
    binary_good (h := by decide) .., nullary_good (h := by decide) .., nullary_good (h := by decide) .., unary_good (h := by decide) ..,
    binary_good (h := by decide) .., unary_good (h := by decide) .., unary_good (h := by decide) .., binary_good (h := by decide) ..,
    ternary_good (h := by decide) .., nullary_good (h := by decide) .., binary_good (h := by decide) .., unary_good (h := by decide) ..,
    binary_good (h := by decide) .., nullary_good (h := by decide) .., binary_good (h := by decide) .., nullary_good (h := by decide) ..,
    binary_good (h := by decide) .., binary_good (h := by decide) .., unary_good (h := by decide) .., binary_good (h := by decide) ..,
    nullary_good (h := by decide) .., binary_good (h := by decide) .., unary_good (h := by decide) .., binary_good (h := by decide) ..,
    nullary_good (h := by decide) .., unary_good (h := by decide) .., binary_good (h := by decide) .., unary_good (h := by decide) ..,
    binary_good (h := by decide) .., nullary_good (h := by decide) .., unary_good (h := by decide) .., unary_good (h := by decide) ..,
    ternary_good (h := by decide) .., nullary_good (h := by decide) .., binary_good (h := by decide) .., nullary_good (h := by decide) ..,
    unary_good (h := by decide) .., binary_good (h := by decide) .., unary_good (h := by decide) .., unary_good (h := by decide) ..,
    binary_good (h := by decide) .., unary_good (h := by decide) .., nullary_good (h := by decide) .., binary_good (h := by decide) ..,
    unary_good (h := by decide) .., unary_good (h := by decide) .., binary_good (h := by decide) .., unary_good (h := by decide) ..,
    binary_good (h := by decide) .., nullary_good (h := by decide) .., unary_good (h := by decide) .., binary_good (h := by decide) ..,
    nullary_good (h := by decide) .., unary_good (h := by decide) .., binary_good (h := by decide) .., nullary_good (h := by decide) ..,
    unary_good (h := by decide) .., unary_good (h := by decide) .., ternary_good (h := by decide) .., unary_good (h := by decide) ..,
    nullary_good (h := by decide) .., unary_good (h := by decide) .., binary_good (h := by decide) .., ternary_good (h := by decide) ..,
    unary_good (h := by decide) .., binary_good (h := by decide) .., binary_good (h := by decide) .., unary_good (h := by decide) ..,
    binary_good (h := by decide) .., unary_good (h := by decide) .., binary_good (h := by decide) .., unary_good (h := by decide) ..,
    unary_good (h := by decide) .., unary_good (h := by decide) .., binary_good (h := by decide) .., nullary_good (h := by decide) ..,
    nullary_good (h := by decide) .., unary_good (h := by decide) .., binary_good (h := by decide) .., unary_good (h := by decide) ..,
    unary_good (h := by decide) .., binary_good (h := by decide) .., ternary_good (h := by decide) .., nullary_good (h := by decide) ..⟩

end Cert.ReferenceIdeal.Hand

end
-- ==== Proof.Ref.W19.lean ====
import proofs.«146970_j35948876268088_1_alg».proof.ReferenceIdeal.P04
import proofs.«146970_j35948876268088_1_alg».proof.Proof.Ref.Keep

noncomputable section

namespace Cert.ReferenceIdeal.Hand

open Cert.ReferenceIdeal Idealize.ShloMosaic Idealize.ShloMosaic.TcCoe Idealize.SL.Sem Idealize.ShloMosaic.StableHlo

variable {F : FTy → Type} [FloatOps F]

variable [Facts]
open Facts₀ Facts

set_option maxHeartbeats 4000000 in
/-- The operations of window 19, in order; a called function's operations stand in its call's place. -/
abbrev ops_part19 : List (HloOp τ sig (Elt F)) :=
  [ StableHlo.binary main_v885 main_cst_197 main_v940 ((fun x v => Host.reduce FloatOps.minimumf x v reducesTo_S2048x1_S_d0_1 h_S_) : (⟨S2048x1, .f32⟩ : BufTy).Contents (Elt F) → (⟨S_, .f32⟩ : BufTy).Contents (Elt F) → (⟨S_, .f32⟩ : BufTy).Contents (Elt F)),
    StableHlo.unary main_v940 main_v941 (broadcastInDim S2048x1 ![] bcast_S_S2048x1 : (⟨S_, .f32⟩ : BufTy).Contents (Elt F) → (⟨S2048x1, .f32⟩ : BufTy).Contents (Elt F)),
    StableHlo.binary main_v885 main_v941 main_v942 (subf : (⟨S2048x1, .f32⟩ : BufTy).Contents (Elt F) → (⟨S2048x1, .f32⟩ : BufTy).Contents (Elt F) → (⟨S2048x1, .f32⟩ : BufTy).Contents (Elt F)),
    StableHlo.nullary main_cst_198 (constant S_ .f32 0xFF800000#32),
    StableHlo.binary main_v885 main_cst_198 main_v943 ((fun x v => Host.reduce FloatOps.maximumf x v reducesTo_S2048x1_S_d0_1 h_S_) : (⟨S2048x1, .f32⟩ : BufTy).Contents (Elt F) → (⟨S_, .f32⟩ : BufTy).Contents (Elt F) → (⟨S_, .f32⟩ : BufTy).Contents (Elt F)),
    StableHlo.nullary main_cst_199 (constant S_ .f32 0x7F800000#32),
    StableHlo.binary main_v885 main_cst_199 main_v944 ((fun x v => Host.reduce FloatOps.minimumf x v reducesTo_S2048x1_S_d0_1 h_S_) : (⟨S2048x1, .f32⟩ : BufTy).Contents (Elt F) → (⟨S_, .f32⟩ : BufTy).Contents (Elt F) → (⟨S_, .f32⟩ : BufTy).Contents (Elt F)),
    StableHlo.binary main_v943 main_v944 main_v945 (subf : (⟨S_, .f32⟩ : BufTy).Contents (Elt F) → (⟨S_, .f32⟩ : BufTy).Contents (Elt F) → (⟨S_, .f32⟩ : BufTy).Contents (Elt F)),
    StableHlo.unary main_v945 main_v946 (broadcastInDim S2048x1 ![] bcast_S_S2048x1 : (⟨S_, .f32⟩ : BufTy).Contents (Elt F) → (⟨S2048x1, .f32⟩ : BufTy).Contents (Elt F)),
    StableHlo.binary main_v942 main_v946 main_v947 (Host.divf : (⟨S2048x1, .f32⟩ : BufTy).Contents (Elt F) → (⟨S2048x1, .f32⟩ : BufTy).Contents (Elt F) → (⟨S2048x1, .f32⟩ : BufTy).Contents (Elt F)),
    StableHlo.nullary main_cst_200 (constant S_ .f32 0xFF800000#32),
    StableHlo.binary main_v939 main_cst_200 main_v948 ((fun x v => Host.reduce FloatOps.maximumf x v reducesTo_S2048x2048_S_d0_1 h_S_) : (⟨S2048x2048, .f32⟩ : BufTy).Contents (Elt F) → (⟨S_, .f32⟩ : BufTy).Contents (Elt F) → (⟨S_, .f32⟩ : BufTy).Contents (Elt F)),
    StableHlo.unary main_v948 main_v949 (broadcastInDim S2048x1 ![] bcast_S_S2048x1 : (⟨S_, .f32⟩ : BufTy).Contents (Elt F) → (⟨S2048x1, .f32⟩ : BufTy).Contents (Elt F)),
    StableHlo.binary main_v947 main_v949 main_v950 (mulf : (⟨S2048x1, .f32⟩ : BufTy).Contents (Elt F) → (⟨S2048x1, .f32⟩ : BufTy).Contents (Elt F) → (⟨S2048x1, .f32⟩ : BufTy).Contents (Elt F)),
    StableHlo.nullary main_cst_201 (constant S_ .f32 0x00000000#32),
    StableHlo.unary main_cst_201 main_v951 (broadcastInDim S2048x2048 ![] bcast_S_S2048x2048 : (⟨S_, .f32⟩ : BufTy).Contents (Elt F) → (⟨S2048x2048, .f32⟩ : BufTy).Contents (Elt F)),
    StableHlo.binary main_v928 main_v951 main_v952 (cmpf .ogt : (⟨S2048x2048, .f32⟩ : BufTy).Contents (Elt F) → (⟨S2048x2048, .f32⟩ : BufTy).Contents (Elt F) → (⟨S2048x2048, .i1⟩ : BufTy).Contents (Elt F)),
    StableHlo.unary main_v950 main_v953 (broadcastInDim S2048x2048 ![0, 1] bcast_S2048x1_S2048x2048_0_1 : (⟨S2048x1, .f32⟩ : BufTy).Contents (Elt F) → (⟨S2048x2048, .f32⟩ : BufTy).Contents (Elt F)),
    StableHlo.binary main_v939 main_v953 main_v954 (addf : (⟨S2048x2048, .f32⟩ : BufTy).Contents (Elt F) → (⟨S2048x2048, .f32⟩ : BufTy).Contents (Elt F) → (⟨S2048x2048, .f32⟩ : BufTy).Contents (Elt F)),
    StableHlo.nullary main_cst_202 (constant S_ .f32 0xD368D4A5#32),
    StableHlo.TRef.unary (StableHlo.TRef.of (T := ⟨S_, .f32⟩) main_cst_202) main_call40.v0 id,
    StableHlo.TRef.unary main_call40.v0 main_call40.v1 (broadcastInDim S2048x2048 ![] bcast_S_S2048x2048),
    StableHlo.TRef.ternary (StableHlo.TRef.of (T := ⟨S2048x2048, .i1⟩) main_v952) (StableHlo.TRef.of (T := ⟨S2048x2048, .f32⟩) main_v954) main_call40.v1 main_call40.v2 select,
    StableHlo.nullary main_cst_203 (constant S_ .f32 0xFF800000#32),
    StableHlo.binary main_v955 main_cst_203 main_v956 ((fun x v => Host.reduce FloatOps.maximumf x v reducesTo_S2048x2048_S2048_d1 h_S_) : (⟨S2048x2048, .f32⟩ : BufTy).Contents (Elt F) → (⟨S_, .f32⟩ : BufTy).Contents (Elt F) → (⟨S2048, .f32⟩ : BufTy).Contents (Elt F)),
    StableHlo.nullary main_cst_204 (constant S_ .f32 0xFF800000#32),
    StableHlo.unary main_cst_204 main_v957 (broadcastInDim S2048 ![] bcast_S_S2048 : (⟨S_, .f32⟩ : BufTy).Contents (Elt F) → (⟨S2048, .f32⟩ : BufTy).Contents (Elt F)),
    StableHlo.binary main_v957 main_v956 main_v958 (maximumf : (⟨S2048, .f32⟩ : BufTy).Contents (Elt F) → (⟨S2048, .f32⟩ : BufTy).Contents (Elt F) → (⟨S2048, .f32⟩ : BufTy).Contents (Elt F)),
    StableHlo.unary main_v958 main_v959 (broadcastInDim S2048x1 ![0] bcast_S2048_S2048x1_0 : (⟨S2048, .f32⟩ : BufTy).Contents (Elt F) → (⟨S2048x1, .f32⟩ : BufTy).Contents (Elt F)),
    StableHlo.unary main_v959 main_v960 (broadcastInDim S2048x2048 ![0, 1] bcast_S2048x1_S2048x2048_0_1 : (⟨S2048x1, .f32⟩ : BufTy).Contents (Elt F) → (⟨S2048x2048, .f32⟩ : BufTy).Contents (Elt F)),
    StableHlo.binary main_v955 main_v960 main_v961 (subf : (⟨S2048x2048, .f32⟩ : BufTy).Contents (Elt F) → (⟨S2048x2048, .f32⟩ : BufTy).Contents (Elt F) → (⟨S2048x2048, .f32⟩ : BufTy).Contents (Elt F)),
    StableHlo.unary main_v961 main_v962 (Host.exp : (⟨S2048x2048, .f32⟩ : BufTy).Contents (Elt F) → (⟨S2048x2048, .f32⟩ : BufTy).Contents (Elt F)),
    StableHlo.nullary main_cst_205 (constant S_ .f32 0x00000000#32),
    StableHlo.binary main_v962 main_cst_205 main_v963 ((fun x v => Host.reduceAdd x v reducesTo_S2048x2048_S2048_d1 h_S_) : (⟨S2048x2048, .f32⟩ : BufTy).Contents (Elt F) → (⟨S_, .f32⟩ : BufTy).Contents (Elt F) → (⟨S2048, .f32⟩ : BufTy).Contents (Elt F)),
    StableHlo.unary main_v963 main_v964 (broadcastInDim S2048x1 ![0] bcast_S2048_S2048x1_0 : (⟨S2048, .f32⟩ : BufTy).Contents (Elt F) → (⟨S2048x1, .f32⟩ : BufTy).Contents (Elt F)),
    StableHlo.unary main_v964 main_v965 (broadcastInDim S2048x2048 ![0, 1] bcast_S2048x1_S2048x2048_0_1 : (⟨S2048x1, .f32⟩ : BufTy).Contents (Elt F) → (⟨S2048x2048, .f32⟩ : BufTy).Contents (Elt F)),
    StableHlo.binary main_v962 main_v965 main_v966 (Host.divf : (⟨S2048x2048, .f32⟩ : BufTy).Contents (Elt F) → (⟨S2048x2048, .f32⟩ : BufTy).Contents (Elt F) → (⟨S2048x2048, .f32⟩ : BufTy).Contents (Elt F)),
    StableHlo.unary main_v966 main_v967 ((transpose S2048x2048 [1, 0] · transposes_S2048x2048_S2048x2048_1_0) : (⟨S2048x2048, .f32⟩ : BufTy).Contents (Elt F) → (⟨S2048x2048, .f32⟩ : BufTy).Contents (Elt F)),
    StableHlo.binary main_v967 main_v927 main_v968 ((fun l r => Host.dotGeneral dot_S2048x2048_S2048x8_S2048x8_1_0_0_1_n_n none l r) : (⟨S2048x2048, .f32⟩ : BufTy).Contents (Elt F) → (⟨S2048x8, .f32⟩ : BufTy).Contents (Elt F) → (⟨S2048x8, .f32⟩ : BufTy).Contents (Elt F)),
    StableHlo.TRef.nullary main_call41.cst (constant S_ .f32 0x00000000#32),
    StableHlo.TRef.unary main_call41.cst main_call41.v0 (broadcastInDim S2048x8 ![] bcast_S_S2048x8),
    StableHlo.TRef.binary (StableHlo.TRef.of (T := ⟨S2048x8, .f32⟩) main_v968) main_call41.v0 main_call41.v1 (cmpf .ogt),
    StableHlo.TRef.nullary main_call41.cst_0 (constant S_ .f32 0x00000000#32),
    StableHlo.TRef.unary main_call41.cst_0 main_call41.v2 (broadcastInDim S2048x8 ![] bcast_S_S2048x8),
    StableHlo.TRef.binary (StableHlo.TRef.of (T := ⟨S2048x8, .f32⟩) main_v968) main_call41.v2 main_call41.v3 (cmpf .ogt),
    StableHlo.TRef.nullary main_call41.cst_1 (constant S_ .f32 0x00000000#32),
    StableHlo.TRef.unary main_call41.cst_1 main_call41.call0.v0 id,
    StableHlo.TRef.unary main_call41.call0.v0 main_call41.call0.v1 (broadcastInDim S2048x8 ![] bcast_S_S2048x8),
    StableHlo.TRef.ternary main_call41.v3 main_call41.call0.v1 (StableHlo.TRef.of (T := ⟨S2048x8, .f32⟩) main_v968) main_call41.call0.v2 select,
    StableHlo.TRef.unary main_call41.call0.v2 main_call41.v5 Host.expm1,
    StableHlo.TRef.nullary main_call41.cst_2 (constant S_ .f32 0x3F800000#32),
    StableHlo.TRef.unary main_call41.cst_2 main_call41.v6 (broadcastInDim S2048x8 ![] bcast_S_S2048x8),
    StableHlo.TRef.binary main_call41.v6 main_call41.v5 main_call41.v7 mulf,
    StableHlo.TRef.ternary main_call41.v1 (StableHlo.TRef.of (T := ⟨S2048x8, .f32⟩) main_v968) main_call41.v7 main_call41.call1.v0 select,
    StableHlo.unary main_v721 main_v970 ((extractStridedSlice S16x1 ![0, 2] · slices_S16x8_S16x1_0_2) : (⟨S16x8, .f32⟩ : BufTy).Contents (Elt F) → (⟨S16x1, .f32⟩ : BufTy).Contents (Elt F)),
    StableHlo.unary main_v721 main_v971 ((extractStridedSlice S16x1 ![0, 6] · slices_S16x8_S16x1_0_6) : (⟨S16x8, .f32⟩ : BufTy).Contents (Elt F) → (⟨S16x1, .f32⟩ : BufTy).Contents (Elt F)),
    StableHlo.unary main_arg4 main_v972 ((extractStridedSlice S1x256x8 ![2, 0, 0] · slices_S4x256x8_S1x256x8_2_0_0) : (⟨S4x256x8, .f32⟩ : BufTy).Contents (Elt F) → (⟨S1x256x8, .f32⟩ : BufTy).Contents (Elt F)),
    StableHlo.reshape main_v972 main_v973 rfl shapeCasts_S1x256x8_S256x8,
    StableHlo.binary main_v96 main_v96 main_v974 (mulf : (⟨S2048x256, .f32⟩ : BufTy).Contents (Elt F) → (⟨S2048x256, .f32⟩ : BufTy).Contents (Elt F) → (⟨S2048x256, .f32⟩ : BufTy).Contents (Elt F)),
    StableHlo.nullary main_cst_206 (constant S_ .f32 0x00000000#32),
    StableHlo.binary main_v974 main_cst_206 main_v975 ((fun x v => Host.reduceAdd x v reducesTo_S2048x256_S2048_d1 h_S_) : (⟨S2048x256, .f32⟩ : BufTy).Contents (Elt F) → (⟨S_, .f32⟩ : BufTy).Contents (Elt F) → (⟨S2048, .f32⟩ : BufTy).Contents (Elt F)),
    StableHlo.unary main_v975 main_v976 (Host.sqrt : (⟨S2048, .f32⟩ : BufTy).Contents (Elt F) → (⟨S2048, .f32⟩ : BufTy).Contents (Elt F)),
    StableHlo.unary main_v96 main_v977 ((transpose S256x2048 [1, 0] · transposes_S2048x256_S256x2048_1_0) : (⟨S2048x256, .f32⟩ : BufTy).Contents (Elt F) → (⟨S256x2048, .f32⟩ : BufTy).Contents (Elt F)),
    StableHlo.binary main_v96 main_v977 main_v978 ((fun l r => Host.dotGeneral dot_S2048x256_S256x2048_S2048x2048_1_0_0_1_n_n none l r) : (⟨S2048x256, .f32⟩ : BufTy).Contents (Elt F) → (⟨S256x2048, .f32⟩ : BufTy).Contents (Elt F) → (⟨S2048x2048, .f32⟩ : BufTy).Contents (Elt F)),
    StableHlo.unary main_v976 main_v979 (broadcastInDim S2048x1 ![0] bcast_S2048_S2048x1_0 : (⟨S2048, .f32⟩ : BufTy).Contents (Elt F) → (⟨S2048x1, .f32⟩ : BufTy).Contents (Elt F)),
    StableHlo.unary main_v976 main_v980 (broadcastInDim S1x2048 ![1] bcast_S2048_S1x2048_1 : (⟨S2048, .f32⟩ : BufTy).Contents (Elt F) → (⟨S1x2048, .f32⟩ : BufTy).Contents (Elt F)),
    StableHlo.unary main_v979 main_v981 (broadcastInDim S2048x2048 ![0, 1] bcast_S2048x1_S2048x2048_0_1 : (⟨S2048x1, .f32⟩ : BufTy).Contents (Elt F) → (⟨S2048x2048, .f32⟩ : BufTy).Contents (Elt F)),
    StableHlo.unary main_v980 main_v982 (broadcastInDim S2048x2048 ![0, 1] bcast_S1x2048_S2048x2048_0_1 : (⟨S1x2048, .f32⟩ : BufTy).Contents (Elt F) → (⟨S2048x2048, .f32⟩ : BufTy).Contents (Elt F)),
    StableHlo.binary main_v981 main_v982 main_v983 (mulf : (⟨S2048x2048, .f32⟩ : BufTy).Contents (Elt F) → (⟨S2048x2048, .f32⟩ : BufTy).Contents (Elt F) → (⟨S2048x2048, .f32⟩ : BufTy).Contents (Elt F)),
    StableHlo.binary main_v978 main_v983 main_v984 (Host.divf : (⟨S2048x2048, .f32⟩ : BufTy).Contents (Elt F) → (⟨S2048x2048, .f32⟩ : BufTy).Contents (Elt F) → (⟨S2048x2048, .f32⟩ : BufTy).Contents (Elt F)),
    StableHlo.nullary main_v985 (iotaInDim S2048x2048 32 0),
    StableHlo.nullary main_v986 (iotaInDim S2048x2048 32 1),
    StableHlo.nullary main_c_207 (constantI S_ 32 0#32),
    StableHlo.unary main_c_207 main_v987 (broadcastInDim S2048x2048 ![] bcast_S_S2048x2048 : (⟨S_, .i32⟩ : BufTy).Contents (Elt F) → (⟨S2048x2048, .i32⟩ : BufTy).Contents (Elt F)),
    StableHlo.binary main_v985 main_v987 main_v988 (addi : (⟨S2048x2048, .i32⟩ : BufTy).Contents (Elt F) → (⟨S2048x2048, .i32⟩ : BufTy).Contents (Elt F) → (⟨S2048x2048, .i32⟩ : BufTy).Contents (Elt F)),
    StableHlo.binary main_v988 main_v986 main_v989 (cmpi .eq : (⟨S2048x2048, .i32⟩ : BufTy).Contents (Elt F) → (⟨S2048x2048, .i32⟩ : BufTy).Contents (Elt F) → (⟨S2048x2048, .i1⟩ : BufTy).Contents (Elt F)) ]

set_option maxRecDepth 16384 in
set_option maxHeartbeats 4000000 in
/-- The window is that line: the called functions unfold at their calls and sequencing re-associates. -/
theorem main_part19_eq (c : Dev nD) : main_part19 (F := F) c = StableHlo.seq ops_part19 := rfl

set_option maxRecDepth 16384 in
set_option maxHeartbeats 4000000 in
/-- Every operation of the window is good; the result's index is compared by computation. -/
theorem ops_part19_good : (ops_part19 : List (HloOp τ sig (Elt F))).Forall (Good 12) :=
  ⟨binary_good (h := by decide) .., unary_good (h := by decide) .., binary_good (h := by decide) .., nullary_good (h := by decide) ..,
    binary_good (h := by decide) .., nullary_good (h := by decide) .., binary_good (h := by decide) .., binary_good (h := by decide) ..,
    unary_good (h := by decide) .., binary_good (h := by decide) .., nullary_good (h := by decide) .., binary_good (h := by decide) ..,
    unary_good (h := by decide) .., binary_good (h := by decide) .., nullary_good (h := by decide) .., unary_good (h := by decide) ..,
    binary_good (h := by decide) .., unary_good (h := by decide) .., binary_good (h := by decide) .., nullary_good (h := by decide) ..,
    unary_good (h := by decide) .., unary_good (h := by decide) .., ternary_good (h := by decide) .., nullary_good (h := by decide) ..,
    binary_good (h := by decide) .., nullary_good (h := by decide) .., unary_good (h := by decide) .., binary_good (h := by decide) ..,
    unary_good (h := by decide) .., unary_good (h := by decide) .., binary_good (h := by decide) .., unary_good (h := by decide) ..,
    nullary_good (h := by decide) .., binary_good (h := by decide) .., unary_good (h := by decide) .., unary_good (h := by decide) ..,
    binary_good (h := by decide) .., unary_good (h := by decide) .., binary_good (h := by decide) .., nullary_good (h := by decide) ..,
    unary_good (h := by decide) .., binary_good (h := by decide) .., nullary_good (h := by decide) .., unary_good (h := by decide) ..,
    binary_good (h := by decide) .., nullary_good (h := by decide) .., unary_good (h := by decide) .., unary_good (h := by decide) ..,
    ternary_good (h := by decide) .., unary_good (h := by decide) .., nullary_good (h := by decide) .., unary_good (h := by decide) ..,
    binary_good (h := by decide) .., ternary_good (h := by decide) .., unary_good (h := by decide) .., unary_good (h := by decide) ..,
    unary_good (h := by decide) .., reshape_good (h := by decide) .., binary_good (h := by decide) .., nullary_good (h := by decide) ..,
    binary_good (h := by decide) .., unary_good (h := by decide) .., unary_good (h := by decide) .., binary_good (h := by decide) ..,
    unary_good (h := by decide) .., unary_good (h := by decide) .., unary_good (h := by decide) .., unary_good (h := by decide) ..,
    binary_good (h := by decide) .., binary_good (h := by decide) .., nullary_good (h := by decide) .., nullary_good (h := by decide) ..,
    nullary_good (h := by decide) .., unary_good (h := by decide) .., binary_good (h := by decide) .., binary_good (h := by decide) ..⟩

end Cert.ReferenceIdeal.Hand

end
-- ==== Proof.Ref.W20.lean ====
import proofs.«146970_j35948876268088_1_alg».proof.ReferenceIdeal.P04
import proofs.«146970_j35948876268088_1_alg».proof.Proof.Ref.Keep

noncomputable section

namespace Cert.ReferenceIdeal.Hand

open Cert.ReferenceIdeal Idealize.ShloMosaic Idealize.ShloMosaic.TcCoe Idealize.SL.Sem Idealize.ShloMosaic.StableHlo

variable {F : FTy → Type} [FloatOps F]

variable [Facts]
open Facts₀ Facts

set_option maxHeartbeats 4000000 in
/-- The operations of window 20, in order; a called function's operations stand in its call's place. -/
abbrev ops_part20 : List (HloOp τ sig (Elt F)) :=
  [ StableHlo.unary main_v989 main_v990 (uitofp .f32 : (⟨S2048x2048, .i1⟩ : BufTy).Contents (Elt F) → (⟨S2048x2048, .f32⟩ : BufTy).Contents (Elt F)),
    StableHlo.nullary main_cst_208 (constant S_ .f32 0x3F800000#32),
    StableHlo.unary main_cst_208 main_v991 (broadcastInDim S2048x2048 ![] bcast_S_S2048x2048 : (⟨S_, .f32⟩ : BufTy).Contents (Elt F) → (⟨S2048x2048, .f32⟩ : BufTy).Contents (Elt F)),
    StableHlo.binary main_v991 main_v990 main_v992 (subf : (⟨S2048x2048, .f32⟩ : BufTy).Contents (Elt F) → (⟨S2048x2048, .f32⟩ : BufTy).Contents (Elt F) → (⟨S2048x2048, .f32⟩ : BufTy).Contents (Elt F)),
    StableHlo.nullary main_cst_209 (constant S_ .f32 0x3F000000#32),
    StableHlo.unary main_cst_209 main_v993 (broadcastInDim S2048x2048 ![] bcast_S_S2048x2048 : (⟨S_, .f32⟩ : BufTy).Contents (Elt F) → (⟨S2048x2048, .f32⟩ : BufTy).Contents (Elt F)),
    StableHlo.binary main_v984 main_v993 main_v994 (cmpf .ogt : (⟨S2048x2048, .f32⟩ : BufTy).Contents (Elt F) → (⟨S2048x2048, .f32⟩ : BufTy).Contents (Elt F) → (⟨S2048x2048, .i1⟩ : BufTy).Contents (Elt F)),
    StableHlo.nullary main_cst_210 (constant S_ .f32 0x00000000#32),
    StableHlo.TRef.unary (StableHlo.TRef.of (T := ⟨S_, .f32⟩) main_cst_210) main_call42.v0 id,
    StableHlo.TRef.unary main_call42.v0 main_call42.v1 (broadcastInDim S2048x2048 ![] bcast_S_S2048x2048),
    StableHlo.TRef.ternary (StableHlo.TRef.of (T := ⟨S2048x2048, .i1⟩) main_v994) (StableHlo.TRef.of (T := ⟨S2048x2048, .f32⟩) main_v984) main_call42.v1 main_call42.v2 select,
    StableHlo.binary main_v995 main_v992 main_v996 (mulf : (⟨S2048x2048, .f32⟩ : BufTy).Contents (Elt F) → (⟨S2048x2048, .f32⟩ : BufTy).Contents (Elt F) → (⟨S2048x2048, .f32⟩ : BufTy).Contents (Elt F)),
    StableHlo.unary main_v74 main_v997 ((transpose S2048x2048 [1, 0] · transposes_S2048x2048_S2048x2048_1_0) : (⟨S2048x2048, .f32⟩ : BufTy).Contents (Elt F) → (⟨S2048x2048, .f32⟩ : BufTy).Contents (Elt F)),
    StableHlo.binary main_v74 main_v997 main_v998 ((fun l r => Host.dotGeneral dot_S2048x2048_S2048x2048_S2048x2048_1_0_0_1_n_n none l r) : (⟨S2048x2048, .f32⟩ : BufTy).Contents (Elt F) → (⟨S2048x2048, .f32⟩ : BufTy).Contents (Elt F) → (⟨S2048x2048, .f32⟩ : BufTy).Contents (Elt F)),
    StableHlo.nullary main_cst_211 (constant S_ .f32 0x00000000#32),
    StableHlo.unary main_cst_211 main_v999 (broadcastInDim S2048x2048 ![] bcast_S_S2048x2048 : (⟨S_, .f32⟩ : BufTy).Contents (Elt F) → (⟨S2048x2048, .f32⟩ : BufTy).Contents (Elt F)),
    StableHlo.binary main_v998 main_v999 main_v1000 (cmpf .ogt : (⟨S2048x2048, .f32⟩ : BufTy).Contents (Elt F) → (⟨S2048x2048, .f32⟩ : BufTy).Contents (Elt F) → (⟨S2048x2048, .i1⟩ : BufTy).Contents (Elt F)),
    StableHlo.unary main_v1000 main_v1001 (uitofp .f32 : (⟨S2048x2048, .i1⟩ : BufTy).Contents (Elt F) → (⟨S2048x2048, .f32⟩ : BufTy).Contents (Elt F)),
    StableHlo.binary main_v1001 main_v992 main_v1002 (mulf : (⟨S2048x2048, .f32⟩ : BufTy).Contents (Elt F) → (⟨S2048x2048, .f32⟩ : BufTy).Contents (Elt F) → (⟨S2048x2048, .f32⟩ : BufTy).Contents (Elt F)),
    StableHlo.binary main_v996 main_v1002 main_v1003 (mulf : (⟨S2048x2048, .f32⟩ : BufTy).Contents (Elt F) → (⟨S2048x2048, .f32⟩ : BufTy).Contents (Elt F) → (⟨S2048x2048, .f32⟩ : BufTy).Contents (Elt F)),
    StableHlo.nullary main_cst_212 (constant S_ .f32 0x00000000#32),
    StableHlo.binary main_v1003 main_cst_212 main_v1004 ((fun x v => Host.reduceAdd x v reducesTo_S2048x2048_S2048_d1 h_S_) : (⟨S2048x2048, .f32⟩ : BufTy).Contents (Elt F) → (⟨S_, .f32⟩ : BufTy).Contents (Elt F) → (⟨S2048, .f32⟩ : BufTy).Contents (Elt F)),
    StableHlo.unary main_v1004 main_v1005 (broadcastInDim S2048x1 ![0] bcast_S2048_S2048x1_0 : (⟨S2048, .f32⟩ : BufTy).Contents (Elt F) → (⟨S2048x1, .f32⟩ : BufTy).Contents (Elt F)),
    StableHlo.unary main_v1005 main_v1006 (broadcastInDim S2048x2048 ![0, 1] bcast_S2048x1_S2048x2048_0_1 : (⟨S2048x1, .f32⟩ : BufTy).Contents (Elt F) → (⟨S2048x2048, .f32⟩ : BufTy).Contents (Elt F)),
    StableHlo.binary main_v74 main_v1006 main_v1007 (mulf : (⟨S2048x2048, .f32⟩ : BufTy).Contents (Elt F) → (⟨S2048x2048, .f32⟩ : BufTy).Contents (Elt F) → (⟨S2048x2048, .f32⟩ : BufTy).Contents (Elt F)),
    StableHlo.nullary main_cst_213 (constant S_ .f32 0x00000000#32),
    StableHlo.binary main_v1007 main_cst_213 main_v1008 ((fun x v => Host.reduceAdd x v reducesTo_S2048x2048_S2048_d0 h_S_) : (⟨S2048x2048, .f32⟩ : BufTy).Contents (Elt F) → (⟨S_, .f32⟩ : BufTy).Contents (Elt F) → (⟨S2048, .f32⟩ : BufTy).Contents (Elt F)),
    StableHlo.unary main_v1008 main_v1009 (broadcastInDim S2048x1 ![0] bcast_S2048_S2048x1_0 : (⟨S2048, .f32⟩ : BufTy).Contents (Elt F) → (⟨S2048x1, .f32⟩ : BufTy).Contents (Elt F)),
    StableHlo.binary main_v96 main_v973 main_v1010 ((fun l r => Host.dotGeneral dot_S2048x256_S256x8_S2048x8_1_0_0_1_n_n none l r) : (⟨S2048x256, .f32⟩ : BufTy).Contents (Elt F) → (⟨S256x8, .f32⟩ : BufTy).Contents (Elt F) → (⟨S2048x8, .f32⟩ : BufTy).Contents (Elt F)),
    StableHlo.binary main_v96 main_v973 main_v1011 ((fun l r => Host.dotGeneral dot_S2048x256_S256x8_S2048x8_1_0_0_1_n_n none l r) : (⟨S2048x256, .f32⟩ : BufTy).Contents (Elt F) → (⟨S256x8, .f32⟩ : BufTy).Contents (Elt F) → (⟨S2048x8, .f32⟩ : BufTy).Contents (Elt F)),
    StableHlo.binary main_v89 main_v973 main_v1012 ((fun l r => Host.dotGeneral dot_S2048x256_S256x8_S2048x8_1_0_0_1_n_n none l r) : (⟨S2048x256, .f32⟩ : BufTy).Contents (Elt F) → (⟨S256x8, .f32⟩ : BufTy).Contents (Elt F) → (⟨S2048x8, .f32⟩ : BufTy).Contents (Elt F)),
    StableHlo.unary main_v970 main_v1013 ((extractStridedSlice S8x1 ![0, 0] · slices_S16x1_S8x1_0_0) : (⟨S16x1, .f32⟩ : BufTy).Contents (Elt F) → (⟨S8x1, .f32⟩ : BufTy).Contents (Elt F)),
    StableHlo.binary main_v1011 main_v1013 main_v1014 ((fun l r => Host.dotGeneral dot_S2048x8_S8x1_S2048x1_1_0_0_1_n_n none l r) : (⟨S2048x8, .f32⟩ : BufTy).Contents (Elt F) → (⟨S8x1, .f32⟩ : BufTy).Contents (Elt F) → (⟨S2048x1, .f32⟩ : BufTy).Contents (Elt F)),
    StableHlo.unary main_v970 main_v1015 ((extractStridedSlice S8x1 ![8, 0] · slices_S16x1_S8x1_8_0) : (⟨S16x1, .f32⟩ : BufTy).Contents (Elt F) → (⟨S8x1, .f32⟩ : BufTy).Contents (Elt F)),
    StableHlo.binary main_v1012 main_v1015 main_v1016 ((fun l r => Host.dotGeneral dot_S2048x8_S8x1_S2048x1_1_0_0_1_n_n none l r) : (⟨S2048x8, .f32⟩ : BufTy).Contents (Elt F) → (⟨S8x1, .f32⟩ : BufTy).Contents (Elt F) → (⟨S2048x1, .f32⟩ : BufTy).Contents (Elt F)),
    StableHlo.unary main_v1016 main_v1017 ((transpose S1x2048 [1, 0] · transposes_S2048x1_S1x2048_1_0) : (⟨S2048x1, .f32⟩ : BufTy).Contents (Elt F) → (⟨S1x2048, .f32⟩ : BufTy).Contents (Elt F)),
    StableHlo.unary main_v1014 main_v1018 (broadcastInDim S2048x2048 ![0, 1] bcast_S2048x1_S2048x2048_0_1 : (⟨S2048x1, .f32⟩ : BufTy).Contents (Elt F) → (⟨S2048x2048, .f32⟩ : BufTy).Contents (Elt F)),
    StableHlo.unary main_v1017 main_v1019 (broadcastInDim S2048x2048 ![0, 1] bcast_S1x2048_S2048x2048_0_1 : (⟨S1x2048, .f32⟩ : BufTy).Contents (Elt F) → (⟨S2048x2048, .f32⟩ : BufTy).Contents (Elt F)),
    StableHlo.binary main_v1018 main_v1019 main_v1020 (addf : (⟨S2048x2048, .f32⟩ : BufTy).Contents (Elt F) → (⟨S2048x2048, .f32⟩ : BufTy).Contents (Elt F) → (⟨S2048x2048, .f32⟩ : BufTy).Contents (Elt F)),
    StableHlo.nullary main_cst_214 (constant S_ .f32 0x3E4CCCCD#32),
    StableHlo.TRef.nullary main_call43.cst (constant S_ .f32 0x00000000#32),
    StableHlo.TRef.unary main_call43.cst main_call43.v0 (broadcastInDim S2048x2048 ![] bcast_S_S2048x2048),
    StableHlo.TRef.binary (StableHlo.TRef.of (T := ⟨S2048x2048, .f32⟩) main_v1020) main_call43.v0 main_call43.v1 (cmpf .oge),
    StableHlo.TRef.unary (StableHlo.TRef.of (T := ⟨S_, .f32⟩) main_cst_214) main_call43.v2 id,
    StableHlo.TRef.unary main_call43.v2 main_call43.v3 (broadcastInDim S2048x2048 ![] bcast_S_S2048x2048),
    StableHlo.TRef.binary main_call43.v3 (StableHlo.TRef.of (T := ⟨S2048x2048, .f32⟩) main_v1020) main_call43.v4 mulf,
    StableHlo.TRef.ternary main_call43.v1 (StableHlo.TRef.of (T := ⟨S2048x2048, .f32⟩) main_v1020) main_call43.v4 main_call43.call0.v0 select,
    StableHlo.nullary main_cst_215 (constant S_ .f32 0x7F800000#32),
    StableHlo.binary main_v1005 main_cst_215 main_v1022 ((fun x v => Host.reduce FloatOps.minimumf x v reducesTo_S2048x1_S_d0_1 h_S_) : (⟨S2048x1, .f32⟩ : BufTy).Contents (Elt F) → (⟨S_, .f32⟩ : BufTy).Contents (Elt F) → (⟨S_, .f32⟩ : BufTy).Contents (Elt F)),
    StableHlo.unary main_v1022 main_v1023 (broadcastInDim S2048x1 ![] bcast_S_S2048x1 : (⟨S_, .f32⟩ : BufTy).Contents (Elt F) → (⟨S2048x1, .f32⟩ : BufTy).Contents (Elt F)),
    StableHlo.binary main_v1005 main_v1023 main_v1024 (subf : (⟨S2048x1, .f32⟩ : BufTy).Contents (Elt F) → (⟨S2048x1, .f32⟩ : BufTy).Contents (Elt F) → (⟨S2048x1, .f32⟩ : BufTy).Contents (Elt F)),
    StableHlo.nullary main_cst_216 (constant S_ .f32 0xFF800000#32),
    StableHlo.binary main_v1005 main_cst_216 main_v1025 ((fun x v => Host.reduce FloatOps.maximumf x v reducesTo_S2048x1_S_d0_1 h_S_) : (⟨S2048x1, .f32⟩ : BufTy).Contents (Elt F) → (⟨S_, .f32⟩ : BufTy).Contents (Elt F) → (⟨S_, .f32⟩ : BufTy).Contents (Elt F)),
    StableHlo.nullary main_cst_217 (constant S_ .f32 0x7F800000#32),
    StableHlo.binary main_v1005 main_cst_217 main_v1026 ((fun x v => Host.reduce FloatOps.minimumf x v reducesTo_S2048x1_S_d0_1 h_S_) : (⟨S2048x1, .f32⟩ : BufTy).Contents (Elt F) → (⟨S_, .f32⟩ : BufTy).Contents (Elt F) → (⟨S_, .f32⟩ : BufTy).Contents (Elt F)),
    StableHlo.binary main_v1025 main_v1026 main_v1027 (subf : (⟨S_, .f32⟩ : BufTy).Contents (Elt F) → (⟨S_, .f32⟩ : BufTy).Contents (Elt F) → (⟨S_, .f32⟩ : BufTy).Contents (Elt F)),
    StableHlo.unary main_v1027 main_v1028 (broadcastInDim S2048x1 ![] bcast_S_S2048x1 : (⟨S_, .f32⟩ : BufTy).Contents (Elt F) → (⟨S2048x1, .f32⟩ : BufTy).Contents (Elt F)),
    StableHlo.binary main_v1024 main_v1028 main_v1029 (Host.divf : (⟨S2048x1, .f32⟩ : BufTy).Contents (Elt F) → (⟨S2048x1, .f32⟩ : BufTy).Contents (Elt F) → (⟨S2048x1, .f32⟩ : BufTy).Contents (Elt F)),
    StableHlo.nullary main_cst_218 (constant S_ .f32 0xFF800000#32),
    StableHlo.binary main_v1021 main_cst_218 main_v1030 ((fun x v => Host.reduce FloatOps.maximumf x v reducesTo_S2048x2048_S_d0_1 h_S_) : (⟨S2048x2048, .f32⟩ : BufTy).Contents (Elt F) → (⟨S_, .f32⟩ : BufTy).Contents (Elt F) → (⟨S_, .f32⟩ : BufTy).Contents (Elt F)),
    StableHlo.unary main_v1030 main_v1031 (broadcastInDim S2048x1 ![] bcast_S_S2048x1 : (⟨S_, .f32⟩ : BufTy).Contents (Elt F) → (⟨S2048x1, .f32⟩ : BufTy).Contents (Elt F)),
    StableHlo.binary main_v1029 main_v1031 main_v1032 (mulf : (⟨S2048x1, .f32⟩ : BufTy).Contents (Elt F) → (⟨S2048x1, .f32⟩ : BufTy).Contents (Elt F) → (⟨S2048x1, .f32⟩ : BufTy).Contents (Elt F)),
    StableHlo.nullary main_cst_219 (constant S_ .f32 0x00000000#32),
    StableHlo.unary main_cst_219 main_v1033 (broadcastInDim S2048x2048 ![] bcast_S_S2048x2048 : (⟨S_, .f32⟩ : BufTy).Contents (Elt F) → (⟨S2048x2048, .f32⟩ : BufTy).Contents (Elt F)),
    StableHlo.binary main_v74 main_v1033 main_v1034 (cmpf .ogt : (⟨S2048x2048, .f32⟩ : BufTy).Contents (Elt F) → (⟨S2048x2048, .f32⟩ : BufTy).Contents (Elt F) → (⟨S2048x2048, .i1⟩ : BufTy).Contents (Elt F)),
    StableHlo.unary main_v1032 main_v1035 (broadcastInDim S2048x2048 ![0, 1] bcast_S2048x1_S2048x2048_0_1 : (⟨S2048x1, .f32⟩ : BufTy).Contents (Elt F) → (⟨S2048x2048, .f32⟩ : BufTy).Contents (Elt F)),
    StableHlo.binary main_v1021 main_v1035 main_v1036 (addf : (⟨S2048x2048, .f32⟩ : BufTy).Contents (Elt F) → (⟨S2048x2048, .f32⟩ : BufTy).Contents (Elt F) → (⟨S2048x2048, .f32⟩ : BufTy).Contents (Elt F)),
    StableHlo.nullary main_cst_220 (constant S_ .f32 0xD368D4A5#32) ]

set_option maxRecDepth 16384 in
set_option maxHeartbeats 4000000 in
/-- The window is that line: the called functions unfold at their calls and sequencing re-associates. -/
theorem main_part20_eq (c : Dev nD) : main_part20 (F := F) c = StableHlo.seq ops_part20 := rfl

set_option maxRecDepth 16384 in
set_option maxHeartbeats 4000000 in
/-- Every operation of the window is good; the result's index is compared by computation. -/
theorem ops_part20_good : (ops_part20 : List (HloOp τ sig (Elt F))).Forall (Good 12) :=
  ⟨unary_good (h := by decide) .., nullary_good (h := by decide) .., unary_good (h := by decide) .., binary_good (h := by decide) ..,
    nullary_good (h := by decide) .., unary_good (h := by decide) .., binary_good (h := by decide) .., nullary_good (h := by decide) ..,
    unary_good (h := by decide) .., unary_good (h := by decide) .., ternary_good (h := by decide) .., binary_good (h := by decide) ..,
    unary_good (h := by decide) .., binary_good (h := by decide) .., nullary_good (h := by decide) .., unary_good (h := by decide) ..,
    binary_good (h := by decide) .., unary_good (h := by decide) .., binary_good (h := by decide) .., binary_good (h := by decide) ..,
    nullary_good (h := by decide) .., binary_good (h := by decide) .., unary_good (h := by decide) .., unary_good (h := by decide) ..,
    binary_good (h := by decide) .., nullary_good (h := by decide) .., binary_good (h := by decide) .., unary_good (h := by decide) ..,
    binary_good (h := by decide) .., binary_good (h := by decide) .., binary_good (h := by decide) .., unary_good (h := by decide) ..,
    binary_good (h := by decide) .., unary_good (h := by decide) .., binary_good (h := by decide) .., unary_good (h := by decide) ..,
    unary_good (h := by decide) .., unary_good (h := by decide) .., binary_good (h := by decide) .., nullary_good (h := by decide) ..,
    nullary_good (h := by decide) .., unary_good (h := by decide) .., binary_good (h := by decide) .., unary_good (h := by decide) ..,
    unary_good (h := by decide) .., binary_good (h := by decide) .., ternary_good (h := by decide) .., nullary_good (h := by decide) ..,
    binary_good (h := by decide) .., unary_good (h := by decide) .., binary_good (h := by decide) .., nullary_good (h := by decide) ..,
    binary_good (h := by decide) .., nullary_good (h := by decide) .., binary_good (h := by decide) .., binary_good (h := by decide) ..,
    unary_good (h := by decide) .., binary_good (h := by decide) .., nullary_good (h := by decide) .., binary_good (h := by decide) ..,
    unary_good (h := by decide) .., binary_good (h := by decide) .., nullary_good (h := by decide) .., unary_good (h := by decide) ..,
    binary_good (h := by decide) .., unary_good (h := by decide) .., binary_good (h := by decide) .., nullary_good (h := by decide) ..⟩

end Cert.ReferenceIdeal.Hand

end
-- ==== Proof.Ref.W21.lean ====
import proofs.«146970_j35948876268088_1_alg».proof.ReferenceIdeal.P04
import proofs.«146970_j35948876268088_1_alg».proof.Proof.Ref.Keep

noncomputable section

namespace Cert.ReferenceIdeal.Hand

open Cert.ReferenceIdeal Idealize.ShloMosaic Idealize.ShloMosaic.TcCoe Idealize.SL.Sem Idealize.ShloMosaic.StableHlo

variable {F : FTy → Type} [FloatOps F]

variable [Facts]
open Facts₀ Facts

set_option maxHeartbeats 4000000 in
/-- The operations of window 21, in order; a called function's operations stand in its call's place. -/
abbrev ops_part21 : List (HloOp τ sig (Elt F)) :=
  [ StableHlo.TRef.unary (StableHlo.TRef.of (T := ⟨S_, .f32⟩) main_cst_220) main_call44.v0 id,
    StableHlo.TRef.unary main_call44.v0 main_call44.v1 (broadcastInDim S2048x2048 ![] bcast_S_S2048x2048),
    StableHlo.TRef.ternary (StableHlo.TRef.of (T := ⟨S2048x2048, .i1⟩) main_v1034) (StableHlo.TRef.of (T := ⟨S2048x2048, .f32⟩) main_v1036) main_call44.v1 main_call44.v2 select,
    StableHlo.nullary main_cst_221 (constant S_ .f32 0xFF800000#32),
    StableHlo.binary main_v1037 main_cst_221 main_v1038 ((fun x v => Host.reduce FloatOps.maximumf x v reducesTo_S2048x2048_S2048_d1 h_S_) : (⟨S2048x2048, .f32⟩ : BufTy).Contents (Elt F) → (⟨S_, .f32⟩ : BufTy).Contents (Elt F) → (⟨S2048, .f32⟩ : BufTy).Contents (Elt F)),
    StableHlo.nullary main_cst_222 (constant S_ .f32 0xFF800000#32),
    StableHlo.unary main_cst_222 main_v1039 (broadcastInDim S2048 ![] bcast_S_S2048 : (⟨S_, .f32⟩ : BufTy).Contents (Elt F) → (⟨S2048, .f32⟩ : BufTy).Contents (Elt F)),
    StableHlo.binary main_v1039 main_v1038 main_v1040 (maximumf : (⟨S2048, .f32⟩ : BufTy).Contents (Elt F) → (⟨S2048, .f32⟩ : BufTy).Contents (Elt F) → (⟨S2048, .f32⟩ : BufTy).Contents (Elt F)),
    StableHlo.unary main_v1040 main_v1041 (broadcastInDim S2048x1 ![0] bcast_S2048_S2048x1_0 : (⟨S2048, .f32⟩ : BufTy).Contents (Elt F) → (⟨S2048x1, .f32⟩ : BufTy).Contents (Elt F)),
    StableHlo.unary main_v1041 main_v1042 (broadcastInDim S2048x2048 ![0, 1] bcast_S2048x1_S2048x2048_0_1 : (⟨S2048x1, .f32⟩ : BufTy).Contents (Elt F) → (⟨S2048x2048, .f32⟩ : BufTy).Contents (Elt F)),
    StableHlo.binary main_v1037 main_v1042 main_v1043 (subf : (⟨S2048x2048, .f32⟩ : BufTy).Contents (Elt F) → (⟨S2048x2048, .f32⟩ : BufTy).Contents (Elt F) → (⟨S2048x2048, .f32⟩ : BufTy).Contents (Elt F)),
    StableHlo.unary main_v1043 main_v1044 (Host.exp : (⟨S2048x2048, .f32⟩ : BufTy).Contents (Elt F) → (⟨S2048x2048, .f32⟩ : BufTy).Contents (Elt F)),
    StableHlo.nullary main_cst_223 (constant S_ .f32 0x00000000#32),
    StableHlo.binary main_v1044 main_cst_223 main_v1045 ((fun x v => Host.reduceAdd x v reducesTo_S2048x2048_S2048_d1 h_S_) : (⟨S2048x2048, .f32⟩ : BufTy).Contents (Elt F) → (⟨S_, .f32⟩ : BufTy).Contents (Elt F) → (⟨S2048, .f32⟩ : BufTy).Contents (Elt F)),
    StableHlo.unary main_v1045 main_v1046 (broadcastInDim S2048x1 ![0] bcast_S2048_S2048x1_0 : (⟨S2048, .f32⟩ : BufTy).Contents (Elt F) → (⟨S2048x1, .f32⟩ : BufTy).Contents (Elt F)),
    StableHlo.unary main_v1046 main_v1047 (broadcastInDim S2048x2048 ![0, 1] bcast_S2048x1_S2048x2048_0_1 : (⟨S2048x1, .f32⟩ : BufTy).Contents (Elt F) → (⟨S2048x2048, .f32⟩ : BufTy).Contents (Elt F)),
    StableHlo.binary main_v1044 main_v1047 main_v1048 (Host.divf : (⟨S2048x2048, .f32⟩ : BufTy).Contents (Elt F) → (⟨S2048x2048, .f32⟩ : BufTy).Contents (Elt F) → (⟨S2048x2048, .f32⟩ : BufTy).Contents (Elt F)),
    StableHlo.unary main_v1048 main_v1049 ((transpose S2048x2048 [1, 0] · transposes_S2048x2048_S2048x2048_1_0) : (⟨S2048x2048, .f32⟩ : BufTy).Contents (Elt F) → (⟨S2048x2048, .f32⟩ : BufTy).Contents (Elt F)),
    StableHlo.binary main_v1049 main_v1010 main_v1050 ((fun l r => Host.dotGeneral dot_S2048x2048_S2048x8_S2048x8_1_0_0_1_n_n none l r) : (⟨S2048x2048, .f32⟩ : BufTy).Contents (Elt F) → (⟨S2048x8, .f32⟩ : BufTy).Contents (Elt F) → (⟨S2048x8, .f32⟩ : BufTy).Contents (Elt F)),
    StableHlo.TRef.nullary main_call45.cst (constant S_ .f32 0x00000000#32),
    StableHlo.TRef.unary main_call45.cst main_call45.v0 (broadcastInDim S2048x8 ![] bcast_S_S2048x8),
    StableHlo.TRef.binary (StableHlo.TRef.of (T := ⟨S2048x8, .f32⟩) main_v1050) main_call45.v0 main_call45.v1 (cmpf .ogt),
    StableHlo.TRef.nullary main_call45.cst_0 (constant S_ .f32 0x00000000#32),
    StableHlo.TRef.unary main_call45.cst_0 main_call45.v2 (broadcastInDim S2048x8 ![] bcast_S_S2048x8),
    StableHlo.TRef.binary (StableHlo.TRef.of (T := ⟨S2048x8, .f32⟩) main_v1050) main_call45.v2 main_call45.v3 (cmpf .ogt),
    StableHlo.TRef.nullary main_call45.cst_1 (constant S_ .f32 0x00000000#32),
    StableHlo.TRef.unary main_call45.cst_1 main_call45.call0.v0 id,
    StableHlo.TRef.unary main_call45.call0.v0 main_call45.call0.v1 (broadcastInDim S2048x8 ![] bcast_S_S2048x8),
    StableHlo.TRef.ternary main_call45.v3 main_call45.call0.v1 (StableHlo.TRef.of (T := ⟨S2048x8, .f32⟩) main_v1050) main_call45.call0.v2 select,
    StableHlo.TRef.unary main_call45.call0.v2 main_call45.v5 Host.expm1,
    StableHlo.TRef.nullary main_call45.cst_2 (constant S_ .f32 0x3F800000#32),
    StableHlo.TRef.unary main_call45.cst_2 main_call45.v6 (broadcastInDim S2048x8 ![] bcast_S_S2048x8),
    StableHlo.TRef.binary main_call45.v6 main_call45.v5 main_call45.v7 mulf,
    StableHlo.TRef.ternary main_call45.v1 (StableHlo.TRef.of (T := ⟨S2048x8, .f32⟩) main_v1050) main_call45.v7 main_call45.call1.v0 select,
    StableHlo.unary main_v74 main_v1052 ((transpose S2048x2048 [1, 0] · transposes_S2048x2048_S2048x2048_1_0) : (⟨S2048x2048, .f32⟩ : BufTy).Contents (Elt F) → (⟨S2048x2048, .f32⟩ : BufTy).Contents (Elt F)),
    StableHlo.binary main_v89 main_v973 main_v1053 ((fun l r => Host.dotGeneral dot_S2048x256_S256x8_S2048x8_1_0_0_1_n_n none l r) : (⟨S2048x256, .f32⟩ : BufTy).Contents (Elt F) → (⟨S256x8, .f32⟩ : BufTy).Contents (Elt F) → (⟨S2048x8, .f32⟩ : BufTy).Contents (Elt F)),
    StableHlo.binary main_v96 main_v973 main_v1054 ((fun l r => Host.dotGeneral dot_S2048x256_S256x8_S2048x8_1_0_0_1_n_n none l r) : (⟨S2048x256, .f32⟩ : BufTy).Contents (Elt F) → (⟨S256x8, .f32⟩ : BufTy).Contents (Elt F) → (⟨S2048x8, .f32⟩ : BufTy).Contents (Elt F)),
    StableHlo.unary main_v971 main_v1055 ((extractStridedSlice S8x1 ![0, 0] · slices_S16x1_S8x1_0_0) : (⟨S16x1, .f32⟩ : BufTy).Contents (Elt F) → (⟨S8x1, .f32⟩ : BufTy).Contents (Elt F)),
    StableHlo.binary main_v1053 main_v1055 main_v1056 ((fun l r => Host.dotGeneral dot_S2048x8_S8x1_S2048x1_1_0_0_1_n_n none l r) : (⟨S2048x8, .f32⟩ : BufTy).Contents (Elt F) → (⟨S8x1, .f32⟩ : BufTy).Contents (Elt F) → (⟨S2048x1, .f32⟩ : BufTy).Contents (Elt F)),
    StableHlo.unary main_v971 main_v1057 ((extractStridedSlice S8x1 ![8, 0] · slices_S16x1_S8x1_8_0) : (⟨S16x1, .f32⟩ : BufTy).Contents (Elt F) → (⟨S8x1, .f32⟩ : BufTy).Contents (Elt F)),
    StableHlo.binary main_v1054 main_v1057 main_v1058 ((fun l r => Host.dotGeneral dot_S2048x8_S8x1_S2048x1_1_0_0_1_n_n none l r) : (⟨S2048x8, .f32⟩ : BufTy).Contents (Elt F) → (⟨S8x1, .f32⟩ : BufTy).Contents (Elt F) → (⟨S2048x1, .f32⟩ : BufTy).Contents (Elt F)),
    StableHlo.unary main_v1058 main_v1059 ((transpose S1x2048 [1, 0] · transposes_S2048x1_S1x2048_1_0) : (⟨S2048x1, .f32⟩ : BufTy).Contents (Elt F) → (⟨S1x2048, .f32⟩ : BufTy).Contents (Elt F)),
    StableHlo.unary main_v1056 main_v1060 (broadcastInDim S2048x2048 ![0, 1] bcast_S2048x1_S2048x2048_0_1 : (⟨S2048x1, .f32⟩ : BufTy).Contents (Elt F) → (⟨S2048x2048, .f32⟩ : BufTy).Contents (Elt F)),
    StableHlo.unary main_v1059 main_v1061 (broadcastInDim S2048x2048 ![0, 1] bcast_S1x2048_S2048x2048_0_1 : (⟨S1x2048, .f32⟩ : BufTy).Contents (Elt F) → (⟨S2048x2048, .f32⟩ : BufTy).Contents (Elt F)),
    StableHlo.binary main_v1060 main_v1061 main_v1062 (addf : (⟨S2048x2048, .f32⟩ : BufTy).Contents (Elt F) → (⟨S2048x2048, .f32⟩ : BufTy).Contents (Elt F) → (⟨S2048x2048, .f32⟩ : BufTy).Contents (Elt F)),
    StableHlo.nullary main_cst_224 (constant S_ .f32 0x3E4CCCCD#32),
    StableHlo.TRef.nullary main_call46.cst (constant S_ .f32 0x00000000#32),
    StableHlo.TRef.unary main_call46.cst main_call46.v0 (broadcastInDim S2048x2048 ![] bcast_S_S2048x2048),
    StableHlo.TRef.binary (StableHlo.TRef.of (T := ⟨S2048x2048, .f32⟩) main_v1062) main_call46.v0 main_call46.v1 (cmpf .oge),
    StableHlo.TRef.unary (StableHlo.TRef.of (T := ⟨S_, .f32⟩) main_cst_224) main_call46.v2 id,
    StableHlo.TRef.unary main_call46.v2 main_call46.v3 (broadcastInDim S2048x2048 ![] bcast_S_S2048x2048),
    StableHlo.TRef.binary main_call46.v3 (StableHlo.TRef.of (T := ⟨S2048x2048, .f32⟩) main_v1062) main_call46.v4 mulf,
    StableHlo.TRef.ternary main_call46.v1 (StableHlo.TRef.of (T := ⟨S2048x2048, .f32⟩) main_v1062) main_call46.v4 main_call46.call0.v0 select,
    StableHlo.nullary main_cst_225 (constant S_ .f32 0x7F800000#32),
    StableHlo.binary main_v1009 main_cst_225 main_v1064 ((fun x v => Host.reduce FloatOps.minimumf x v reducesTo_S2048x1_S_d0_1 h_S_) : (⟨S2048x1, .f32⟩ : BufTy).Contents (Elt F) → (⟨S_, .f32⟩ : BufTy).Contents (Elt F) → (⟨S_, .f32⟩ : BufTy).Contents (Elt F)),
    StableHlo.unary main_v1064 main_v1065 (broadcastInDim S2048x1 ![] bcast_S_S2048x1 : (⟨S_, .f32⟩ : BufTy).Contents (Elt F) → (⟨S2048x1, .f32⟩ : BufTy).Contents (Elt F)),
    StableHlo.binary main_v1009 main_v1065 main_v1066 (subf : (⟨S2048x1, .f32⟩ : BufTy).Contents (Elt F) → (⟨S2048x1, .f32⟩ : BufTy).Contents (Elt F) → (⟨S2048x1, .f32⟩ : BufTy).Contents (Elt F)),
    StableHlo.nullary main_cst_226 (constant S_ .f32 0xFF800000#32),
    StableHlo.binary main_v1009 main_cst_226 main_v1067 ((fun x v => Host.reduce FloatOps.maximumf x v reducesTo_S2048x1_S_d0_1 h_S_) : (⟨S2048x1, .f32⟩ : BufTy).Contents (Elt F) → (⟨S_, .f32⟩ : BufTy).Contents (Elt F) → (⟨S_, .f32⟩ : BufTy).Contents (Elt F)),
    StableHlo.nullary main_cst_227 (constant S_ .f32 0x7F800000#32),
    StableHlo.binary main_v1009 main_cst_227 main_v1068 ((fun x v => Host.reduce FloatOps.minimumf x v reducesTo_S2048x1_S_d0_1 h_S_) : (⟨S2048x1, .f32⟩ : BufTy).Contents (Elt F) → (⟨S_, .f32⟩ : BufTy).Contents (Elt F) → (⟨S_, .f32⟩ : BufTy).Contents (Elt F)),
    StableHlo.binary main_v1067 main_v1068 main_v1069 (subf : (⟨S_, .f32⟩ : BufTy).Contents (Elt F) → (⟨S_, .f32⟩ : BufTy).Contents (Elt F) → (⟨S_, .f32⟩ : BufTy).Contents (Elt F)),
    StableHlo.unary main_v1069 main_v1070 (broadcastInDim S2048x1 ![] bcast_S_S2048x1 : (⟨S_, .f32⟩ : BufTy).Contents (Elt F) → (⟨S2048x1, .f32⟩ : BufTy).Contents (Elt F)),
    StableHlo.binary main_v1066 main_v1070 main_v1071 (Host.divf : (⟨S2048x1, .f32⟩ : BufTy).Contents (Elt F) → (⟨S2048x1, .f32⟩ : BufTy).Contents (Elt F) → (⟨S2048x1, .f32⟩ : BufTy).Contents (Elt F)),
    StableHlo.nullary main_cst_228 (constant S_ .f32 0xFF800000#32),
    StableHlo.binary main_v1063 main_cst_228 main_v1072 ((fun x v => Host.reduce FloatOps.maximumf x v reducesTo_S2048x2048_S_d0_1 h_S_) : (⟨S2048x2048, .f32⟩ : BufTy).Contents (Elt F) → (⟨S_, .f32⟩ : BufTy).Contents (Elt F) → (⟨S_, .f32⟩ : BufTy).Contents (Elt F)),
    StableHlo.unary main_v1072 main_v1073 (broadcastInDim S2048x1 ![] bcast_S_S2048x1 : (⟨S_, .f32⟩ : BufTy).Contents (Elt F) → (⟨S2048x1, .f32⟩ : BufTy).Contents (Elt F)),
    StableHlo.binary main_v1071 main_v1073 main_v1074 (mulf : (⟨S2048x1, .f32⟩ : BufTy).Contents (Elt F) → (⟨S2048x1, .f32⟩ : BufTy).Contents (Elt F) → (⟨S2048x1, .f32⟩ : BufTy).Contents (Elt F)),
    StableHlo.nullary main_cst_229 (constant S_ .f32 0x00000000#32),
    StableHlo.unary main_cst_229 main_v1075 (broadcastInDim S2048x2048 ![] bcast_S_S2048x2048 : (⟨S_, .f32⟩ : BufTy).Contents (Elt F) → (⟨S2048x2048, .f32⟩ : BufTy).Contents (Elt F)),
    StableHlo.binary main_v1052 main_v1075 main_v1076 (cmpf .ogt : (⟨S2048x2048, .f32⟩ : BufTy).Contents (Elt F) → (⟨S2048x2048, .f32⟩ : BufTy).Contents (Elt F) → (⟨S2048x2048, .i1⟩ : BufTy).Contents (Elt F)),
    StableHlo.unary main_v1074 main_v1077 (broadcastInDim S2048x2048 ![0, 1] bcast_S2048x1_S2048x2048_0_1 : (⟨S2048x1, .f32⟩ : BufTy).Contents (Elt F) → (⟨S2048x2048, .f32⟩ : BufTy).Contents (Elt F)),
    StableHlo.binary main_v1063 main_v1077 main_v1078 (addf : (⟨S2048x2048, .f32⟩ : BufTy).Contents (Elt F) → (⟨S2048x2048, .f32⟩ : BufTy).Contents (Elt F) → (⟨S2048x2048, .f32⟩ : BufTy).Contents (Elt F)),
    StableHlo.nullary main_cst_230 (constant S_ .f32 0xD368D4A5#32),
    StableHlo.TRef.unary (StableHlo.TRef.of (T := ⟨S_, .f32⟩) main_cst_230) main_call47.v0 id,
    StableHlo.TRef.unary main_call47.v0 main_call47.v1 (broadcastInDim S2048x2048 ![] bcast_S_S2048x2048),
    StableHlo.TRef.ternary (StableHlo.TRef.of (T := ⟨S2048x2048, .i1⟩) main_v1076) (StableHlo.TRef.of (T := ⟨S2048x2048, .f32⟩) main_v1078) main_call47.v1 main_call47.v2 select,
    StableHlo.nullary main_cst_231 (constant S_ .f32 0xFF800000#32),
    StableHlo.binary main_v1079 main_cst_231 main_v1080 ((fun x v => Host.reduce FloatOps.maximumf x v reducesTo_S2048x2048_S2048_d1 h_S_) : (⟨S2048x2048, .f32⟩ : BufTy).Contents (Elt F) → (⟨S_, .f32⟩ : BufTy).Contents (Elt F) → (⟨S2048, .f32⟩ : BufTy).Contents (Elt F)),
    StableHlo.nullary main_cst_232 (constant S_ .f32 0xFF800000#32),
    StableHlo.unary main_cst_232 main_v1081 (broadcastInDim S2048 ![] bcast_S_S2048 : (⟨S_, .f32⟩ : BufTy).Contents (Elt F) → (⟨S2048, .f32⟩ : BufTy).Contents (Elt F)),
    StableHlo.binary main_v1081 main_v1080 main_v1082 (maximumf : (⟨S2048, .f32⟩ : BufTy).Contents (Elt F) → (⟨S2048, .f32⟩ : BufTy).Contents (Elt F) → (⟨S2048, .f32⟩ : BufTy).Contents (Elt F)),
    StableHlo.unary main_v1082 main_v1083 (broadcastInDim S2048x1 ![0] bcast_S2048_S2048x1_0 : (⟨S2048, .f32⟩ : BufTy).Contents (Elt F) → (⟨S2048x1, .f32⟩ : BufTy).Contents (Elt F)),
    StableHlo.unary main_v1083 main_v1084 (broadcastInDim S2048x2048 ![0, 1] bcast_S2048x1_S2048x2048_0_1 : (⟨S2048x1, .f32⟩ : BufTy).Contents (Elt F) → (⟨S2048x2048, .f32⟩ : BufTy).Contents (Elt F)) ]

set_option maxRecDepth 16384 in
set_option maxHeartbeats 4000000 in
/-- The window is that line: the called functions unfold at their calls and sequencing re-associates. -/
theorem main_part21_eq (c : Dev nD) : main_part21 (F := F) c = StableHlo.seq ops_part21 := rfl

set_option maxRecDepth 16384 in
set_option maxHeartbeats 4000000 in
/-- Every operation of the window is good; the result's index is compared by computation. -/
theorem ops_part21_good : (ops_part21 : List (HloOp τ sig (Elt F))).Forall (Good 12) :=
  ⟨unary_good (h := by decide) .., unary_good (h := by decide) .., ternary_good (h := by decide) .., nullary_good (h := by decide) ..,
    binary_good (h := by decide) .., nullary_good (h := by decide) .., unary_good (h := by decide) .., binary_good (h := by decide) ..,
    unary_good (h := by decide) .., unary_good (h := by decide) .., binary_good (h := by decide) .., unary_good (h := by decide) ..,
    nullary_good (h := by decide) .., binary_good (h := by decide) .., unary_good (h := by decide) .., unary_good (h := by decide) ..,
    binary_good (h := by decide) .., unary_good (h := by decide) .., binary_good (h := by decide) .., nullary_good (h := by decide) ..,
    unary_good (h := by decide) .., binary_good (h := by decide) .., nullary_good (h := by decide) .., unary_good (h := by decide) ..,
    binary_good (h := by decide) .., nullary_good (h := by decide) .., unary_good (h := by decide) .., unary_good (h := by decide) ..,
    ternary_good (h := by decide) .., unary_good (h := by decide) .., nullary_good (h := by decide) .., unary_good (h := by decide) ..,
    binary_good (h := by decide) .., ternary_good (h := by decide) .., unary_good (h := by decide) .., binary_good (h := by decide) ..,
    binary_good (h := by decide) .., unary_good (h := by decide) .., binary_good (h := by decide) .., unary_good (h := by decide) ..,
    binary_good (h := by decide) .., unary_good (h := by decide) .., unary_good (h := by decide) .., unary_good (h := by decide) ..,
    binary_good (h := by decide) .., nullary_good (h := by decide) .., nullary_good (h := by decide) .., unary_good (h := by decide) ..,
    binary_good (h := by decide) .., unary_good (h := by decide) .., unary_good (h := by decide) .., binary_good (h := by decide) ..,
    ternary_good (h := by decide) .., nullary_good (h := by decide) .., binary_good (h := by decide) .., unary_good (h := by decide) ..,
    binary_good (h := by decide) .., nullary_good (h := by decide) .., binary_good (h := by decide) .., nullary_good (h := by decide) ..,
    binary_good (h := by decide) .., binary_good (h := by decide) .., unary_good (h := by decide) .., binary_good (h := by decide) ..,
    nullary_good (h := by decide) .., binary_good (h := by decide) .., unary_good (h := by decide) .., binary_good (h := by decide) ..,
    nullary_good (h := by decide) .., unary_good (h := by decide) .., binary_good (h := by decide) .., unary_good (h := by decide) ..,
    binary_good (h := by decide) .., nullary_good (h := by decide) .., unary_good (h := by decide) .., unary_good (h := by decide) ..,
    ternary_good (h := by decide) .., nullary_good (h := by decide) .., binary_good (h := by decide) .., nullary_good (h := by decide) ..,
    unary_good (h := by decide) .., binary_good (h := by decide) .., unary_good (h := by decide) .., unary_good (h := by decide) ..⟩

end Cert.ReferenceIdeal.Hand

end
-- ==== Proof.Ref.W22.lean ====
import proofs.«146970_j35948876268088_1_alg».proof.ReferenceIdeal.P04
import proofs.«146970_j35948876268088_1_alg».proof.Proof.Ref.Keep

noncomputable section

namespace Cert.ReferenceIdeal.Hand

open Cert.ReferenceIdeal Idealize.ShloMosaic Idealize.ShloMosaic.TcCoe Idealize.SL.Sem Idealize.ShloMosaic.StableHlo

variable {F : FTy → Type} [FloatOps F]

variable [Facts]
open Facts₀ Facts

set_option maxHeartbeats 4000000 in
/-- The operations of window 22, in order; a called function's operations stand in its call's place. -/
abbrev ops_part22 : List (HloOp τ sig (Elt F)) :=
  [ StableHlo.binary main_v1079 main_v1084 main_v1085 (subf : (⟨S2048x2048, .f32⟩ : BufTy).Contents (Elt F) → (⟨S2048x2048, .f32⟩ : BufTy).Contents (Elt F) → (⟨S2048x2048, .f32⟩ : BufTy).Contents (Elt F)),
    StableHlo.unary main_v1085 main_v1086 (Host.exp : (⟨S2048x2048, .f32⟩ : BufTy).Contents (Elt F) → (⟨S2048x2048, .f32⟩ : BufTy).Contents (Elt F)),
    StableHlo.nullary main_cst_233 (constant S_ .f32 0x00000000#32),
    StableHlo.binary main_v1086 main_cst_233 main_v1087 ((fun x v => Host.reduceAdd x v reducesTo_S2048x2048_S2048_d1 h_S_) : (⟨S2048x2048, .f32⟩ : BufTy).Contents (Elt F) → (⟨S_, .f32⟩ : BufTy).Contents (Elt F) → (⟨S2048, .f32⟩ : BufTy).Contents (Elt F)),
    StableHlo.unary main_v1087 main_v1088 (broadcastInDim S2048x1 ![0] bcast_S2048_S2048x1_0 : (⟨S2048, .f32⟩ : BufTy).Contents (Elt F) → (⟨S2048x1, .f32⟩ : BufTy).Contents (Elt F)),
    StableHlo.unary main_v1088 main_v1089 (broadcastInDim S2048x2048 ![0, 1] bcast_S2048x1_S2048x2048_0_1 : (⟨S2048x1, .f32⟩ : BufTy).Contents (Elt F) → (⟨S2048x2048, .f32⟩ : BufTy).Contents (Elt F)),
    StableHlo.binary main_v1086 main_v1089 main_v1090 (Host.divf : (⟨S2048x2048, .f32⟩ : BufTy).Contents (Elt F) → (⟨S2048x2048, .f32⟩ : BufTy).Contents (Elt F) → (⟨S2048x2048, .f32⟩ : BufTy).Contents (Elt F)),
    StableHlo.unary main_v1090 main_v1091 ((transpose S2048x2048 [1, 0] · transposes_S2048x2048_S2048x2048_1_0) : (⟨S2048x2048, .f32⟩ : BufTy).Contents (Elt F) → (⟨S2048x2048, .f32⟩ : BufTy).Contents (Elt F)),
    StableHlo.binary main_v1091 main_v1051 main_v1092 ((fun l r => Host.dotGeneral dot_S2048x2048_S2048x8_S2048x8_1_0_0_1_n_n none l r) : (⟨S2048x2048, .f32⟩ : BufTy).Contents (Elt F) → (⟨S2048x8, .f32⟩ : BufTy).Contents (Elt F) → (⟨S2048x8, .f32⟩ : BufTy).Contents (Elt F)),
    StableHlo.TRef.nullary main_call48.cst (constant S_ .f32 0x00000000#32),
    StableHlo.TRef.unary main_call48.cst main_call48.v0 (broadcastInDim S2048x8 ![] bcast_S_S2048x8),
    StableHlo.TRef.binary (StableHlo.TRef.of (T := ⟨S2048x8, .f32⟩) main_v1092) main_call48.v0 main_call48.v1 (cmpf .ogt),
    StableHlo.TRef.nullary main_call48.cst_0 (constant S_ .f32 0x00000000#32),
    StableHlo.TRef.unary main_call48.cst_0 main_call48.v2 (broadcastInDim S2048x8 ![] bcast_S_S2048x8),
    StableHlo.TRef.binary (StableHlo.TRef.of (T := ⟨S2048x8, .f32⟩) main_v1092) main_call48.v2 main_call48.v3 (cmpf .ogt),
    StableHlo.TRef.nullary main_call48.cst_1 (constant S_ .f32 0x00000000#32),
    StableHlo.TRef.unary main_call48.cst_1 main_call48.call0.v0 id,
    StableHlo.TRef.unary main_call48.call0.v0 main_call48.call0.v1 (broadcastInDim S2048x8 ![] bcast_S_S2048x8),
    StableHlo.TRef.ternary main_call48.v3 main_call48.call0.v1 (StableHlo.TRef.of (T := ⟨S2048x8, .f32⟩) main_v1092) main_call48.call0.v2 select,
    StableHlo.TRef.unary main_call48.call0.v2 main_call48.v5 Host.expm1,
    StableHlo.TRef.nullary main_call48.cst_2 (constant S_ .f32 0x3F800000#32),
    StableHlo.TRef.unary main_call48.cst_2 main_call48.v6 (broadcastInDim S2048x8 ![] bcast_S_S2048x8),
    StableHlo.TRef.binary main_call48.v6 main_call48.v5 main_call48.v7 mulf,
    StableHlo.TRef.ternary main_call48.v1 (StableHlo.TRef.of (T := ⟨S2048x8, .f32⟩) main_v1092) main_call48.v7 main_call48.call1.v0 select,
    StableHlo.unary main_v721 main_v1094 ((extractStridedSlice S16x1 ![0, 3] · slices_S16x8_S16x1_0_3) : (⟨S16x8, .f32⟩ : BufTy).Contents (Elt F) → (⟨S16x1, .f32⟩ : BufTy).Contents (Elt F)),
    StableHlo.unary main_v721 main_v1095 ((extractStridedSlice S16x1 ![0, 7] · slices_S16x8_S16x1_0_7) : (⟨S16x8, .f32⟩ : BufTy).Contents (Elt F) → (⟨S16x1, .f32⟩ : BufTy).Contents (Elt F)),
    StableHlo.unary main_arg4 main_v1096 ((extractStridedSlice S1x256x8 ![3, 0, 0] · slices_S4x256x8_S1x256x8_3_0_0) : (⟨S4x256x8, .f32⟩ : BufTy).Contents (Elt F) → (⟨S1x256x8, .f32⟩ : BufTy).Contents (Elt F)),
    StableHlo.reshape main_v1096 main_v1097 rfl shapeCasts_S1x256x8_S256x8,
    StableHlo.binary main_v96 main_v96 main_v1098 (mulf : (⟨S2048x256, .f32⟩ : BufTy).Contents (Elt F) → (⟨S2048x256, .f32⟩ : BufTy).Contents (Elt F) → (⟨S2048x256, .f32⟩ : BufTy).Contents (Elt F)),
    StableHlo.nullary main_cst_234 (constant S_ .f32 0x00000000#32),
    StableHlo.binary main_v1098 main_cst_234 main_v1099 ((fun x v => Host.reduceAdd x v reducesTo_S2048x256_S2048_d1 h_S_) : (⟨S2048x256, .f32⟩ : BufTy).Contents (Elt F) → (⟨S_, .f32⟩ : BufTy).Contents (Elt F) → (⟨S2048, .f32⟩ : BufTy).Contents (Elt F)),
    StableHlo.unary main_v1099 main_v1100 (Host.sqrt : (⟨S2048, .f32⟩ : BufTy).Contents (Elt F) → (⟨S2048, .f32⟩ : BufTy).Contents (Elt F)),
    StableHlo.unary main_v96 main_v1101 ((transpose S256x2048 [1, 0] · transposes_S2048x256_S256x2048_1_0) : (⟨S2048x256, .f32⟩ : BufTy).Contents (Elt F) → (⟨S256x2048, .f32⟩ : BufTy).Contents (Elt F)),
    StableHlo.binary main_v96 main_v1101 main_v1102 ((fun l r => Host.dotGeneral dot_S2048x256_S256x2048_S2048x2048_1_0_0_1_n_n none l r) : (⟨S2048x256, .f32⟩ : BufTy).Contents (Elt F) → (⟨S256x2048, .f32⟩ : BufTy).Contents (Elt F) → (⟨S2048x2048, .f32⟩ : BufTy).Contents (Elt F)),
    StableHlo.unary main_v1100 main_v1103 (broadcastInDim S2048x1 ![0] bcast_S2048_S2048x1_0 : (⟨S2048, .f32⟩ : BufTy).Contents (Elt F) → (⟨S2048x1, .f32⟩ : BufTy).Contents (Elt F)),
    StableHlo.unary main_v1100 main_v1104 (broadcastInDim S1x2048 ![1] bcast_S2048_S1x2048_1 : (⟨S2048, .f32⟩ : BufTy).Contents (Elt F) → (⟨S1x2048, .f32⟩ : BufTy).Contents (Elt F)),
    StableHlo.unary main_v1103 main_v1105 (broadcastInDim S2048x2048 ![0, 1] bcast_S2048x1_S2048x2048_0_1 : (⟨S2048x1, .f32⟩ : BufTy).Contents (Elt F) → (⟨S2048x2048, .f32⟩ : BufTy).Contents (Elt F)),
    StableHlo.unary main_v1104 main_v1106 (broadcastInDim S2048x2048 ![0, 1] bcast_S1x2048_S2048x2048_0_1 : (⟨S1x2048, .f32⟩ : BufTy).Contents (Elt F) → (⟨S2048x2048, .f32⟩ : BufTy).Contents (Elt F)),
    StableHlo.binary main_v1105 main_v1106 main_v1107 (mulf : (⟨S2048x2048, .f32⟩ : BufTy).Contents (Elt F) → (⟨S2048x2048, .f32⟩ : BufTy).Contents (Elt F) → (⟨S2048x2048, .f32⟩ : BufTy).Contents (Elt F)),
    StableHlo.binary main_v1102 main_v1107 main_v1108 (Host.divf : (⟨S2048x2048, .f32⟩ : BufTy).Contents (Elt F) → (⟨S2048x2048, .f32⟩ : BufTy).Contents (Elt F) → (⟨S2048x2048, .f32⟩ : BufTy).Contents (Elt F)),
    StableHlo.nullary main_v1109 (iotaInDim S2048x2048 32 0),
    StableHlo.nullary main_v1110 (iotaInDim S2048x2048 32 1),
    StableHlo.nullary main_c_235 (constantI S_ 32 0#32),
    StableHlo.unary main_c_235 main_v1111 (broadcastInDim S2048x2048 ![] bcast_S_S2048x2048 : (⟨S_, .i32⟩ : BufTy).Contents (Elt F) → (⟨S2048x2048, .i32⟩ : BufTy).Contents (Elt F)),
    StableHlo.binary main_v1109 main_v1111 main_v1112 (addi : (⟨S2048x2048, .i32⟩ : BufTy).Contents (Elt F) → (⟨S2048x2048, .i32⟩ : BufTy).Contents (Elt F) → (⟨S2048x2048, .i32⟩ : BufTy).Contents (Elt F)),
    StableHlo.binary main_v1112 main_v1110 main_v1113 (cmpi .eq : (⟨S2048x2048, .i32⟩ : BufTy).Contents (Elt F) → (⟨S2048x2048, .i32⟩ : BufTy).Contents (Elt F) → (⟨S2048x2048, .i1⟩ : BufTy).Contents (Elt F)),
    StableHlo.unary main_v1113 main_v1114 (uitofp .f32 : (⟨S2048x2048, .i1⟩ : BufTy).Contents (Elt F) → (⟨S2048x2048, .f32⟩ : BufTy).Contents (Elt F)),
    StableHlo.nullary main_cst_236 (constant S_ .f32 0x3F800000#32),
    StableHlo.unary main_cst_236 main_v1115 (broadcastInDim S2048x2048 ![] bcast_S_S2048x2048 : (⟨S_, .f32⟩ : BufTy).Contents (Elt F) → (⟨S2048x2048, .f32⟩ : BufTy).Contents (Elt F)),
    StableHlo.binary main_v1115 main_v1114 main_v1116 (subf : (⟨S2048x2048, .f32⟩ : BufTy).Contents (Elt F) → (⟨S2048x2048, .f32⟩ : BufTy).Contents (Elt F) → (⟨S2048x2048, .f32⟩ : BufTy).Contents (Elt F)),
    StableHlo.nullary main_cst_237 (constant S_ .f32 0x3F000000#32),
    StableHlo.unary main_cst_237 main_v1117 (broadcastInDim S2048x2048 ![] bcast_S_S2048x2048 : (⟨S_, .f32⟩ : BufTy).Contents (Elt F) → (⟨S2048x2048, .f32⟩ : BufTy).Contents (Elt F)),
    StableHlo.binary main_v1108 main_v1117 main_v1118 (cmpf .ogt : (⟨S2048x2048, .f32⟩ : BufTy).Contents (Elt F) → (⟨S2048x2048, .f32⟩ : BufTy).Contents (Elt F) → (⟨S2048x2048, .i1⟩ : BufTy).Contents (Elt F)),
    StableHlo.nullary main_cst_238 (constant S_ .f32 0x00000000#32),
    StableHlo.TRef.unary (StableHlo.TRef.of (T := ⟨S_, .f32⟩) main_cst_238) main_call49.v0 id,
    StableHlo.TRef.unary main_call49.v0 main_call49.v1 (broadcastInDim S2048x2048 ![] bcast_S_S2048x2048),
    StableHlo.TRef.ternary (StableHlo.TRef.of (T := ⟨S2048x2048, .i1⟩) main_v1118) (StableHlo.TRef.of (T := ⟨S2048x2048, .f32⟩) main_v1108) main_call49.v1 main_call49.v2 select,
    StableHlo.binary main_v1119 main_v1116 main_v1120 (mulf : (⟨S2048x2048, .f32⟩ : BufTy).Contents (Elt F) → (⟨S2048x2048, .f32⟩ : BufTy).Contents (Elt F) → (⟨S2048x2048, .f32⟩ : BufTy).Contents (Elt F)),
    StableHlo.unary main_v74 main_v1121 ((transpose S2048x2048 [1, 0] · transposes_S2048x2048_S2048x2048_1_0) : (⟨S2048x2048, .f32⟩ : BufTy).Contents (Elt F) → (⟨S2048x2048, .f32⟩ : BufTy).Contents (Elt F)),
    StableHlo.binary main_v74 main_v1121 main_v1122 ((fun l r => Host.dotGeneral dot_S2048x2048_S2048x2048_S2048x2048_1_0_0_1_n_n none l r) : (⟨S2048x2048, .f32⟩ : BufTy).Contents (Elt F) → (⟨S2048x2048, .f32⟩ : BufTy).Contents (Elt F) → (⟨S2048x2048, .f32⟩ : BufTy).Contents (Elt F)),
    StableHlo.nullary main_cst_239 (constant S_ .f32 0x00000000#32),
    StableHlo.unary main_cst_239 main_v1123 (broadcastInDim S2048x2048 ![] bcast_S_S2048x2048 : (⟨S_, .f32⟩ : BufTy).Contents (Elt F) → (⟨S2048x2048, .f32⟩ : BufTy).Contents (Elt F)),
    StableHlo.binary main_v1122 main_v1123 main_v1124 (cmpf .ogt : (⟨S2048x2048, .f32⟩ : BufTy).Contents (Elt F) → (⟨S2048x2048, .f32⟩ : BufTy).Contents (Elt F) → (⟨S2048x2048, .i1⟩ : BufTy).Contents (Elt F)),
    StableHlo.unary main_v1124 main_v1125 (uitofp .f32 : (⟨S2048x2048, .i1⟩ : BufTy).Contents (Elt F) → (⟨S2048x2048, .f32⟩ : BufTy).Contents (Elt F)),
    StableHlo.binary main_v1125 main_v1116 main_v1126 (mulf : (⟨S2048x2048, .f32⟩ : BufTy).Contents (Elt F) → (⟨S2048x2048, .f32⟩ : BufTy).Contents (Elt F) → (⟨S2048x2048, .f32⟩ : BufTy).Contents (Elt F)),
    StableHlo.binary main_v1120 main_v1126 main_v1127 (mulf : (⟨S2048x2048, .f32⟩ : BufTy).Contents (Elt F) → (⟨S2048x2048, .f32⟩ : BufTy).Contents (Elt F) → (⟨S2048x2048, .f32⟩ : BufTy).Contents (Elt F)),
    StableHlo.nullary main_cst_240 (constant S_ .f32 0x00000000#32),
    StableHlo.binary main_v1127 main_cst_240 main_v1128 ((fun x v => Host.reduceAdd x v reducesTo_S2048x2048_S2048_d1 h_S_) : (⟨S2048x2048, .f32⟩ : BufTy).Contents (Elt F) → (⟨S_, .f32⟩ : BufTy).Contents (Elt F) → (⟨S2048, .f32⟩ : BufTy).Contents (Elt F)),
    StableHlo.unary main_v1128 main_v1129 (broadcastInDim S2048x1 ![0] bcast_S2048_S2048x1_0 : (⟨S2048, .f32⟩ : BufTy).Contents (Elt F) → (⟨S2048x1, .f32⟩ : BufTy).Contents (Elt F)),
    StableHlo.unary main_v1129 main_v1130 (broadcastInDim S2048x2048 ![0, 1] bcast_S2048x1_S2048x2048_0_1 : (⟨S2048x1, .f32⟩ : BufTy).Contents (Elt F) → (⟨S2048x2048, .f32⟩ : BufTy).Contents (Elt F)),
    StableHlo.binary main_v74 main_v1130 main_v1131 (mulf : (⟨S2048x2048, .f32⟩ : BufTy).Contents (Elt F) → (⟨S2048x2048, .f32⟩ : BufTy).Contents (Elt F) → (⟨S2048x2048, .f32⟩ : BufTy).Contents (Elt F)),
    StableHlo.nullary main_cst_241 (constant S_ .f32 0x00000000#32),
    StableHlo.binary main_v1131 main_cst_241 main_v1132 ((fun x v => Host.reduceAdd x v reducesTo_S2048x2048_S2048_d0 h_S_) : (⟨S2048x2048, .f32⟩ : BufTy).Contents (Elt F) → (⟨S_, .f32⟩ : BufTy).Contents (Elt F) → (⟨S2048, .f32⟩ : BufTy).Contents (Elt F)),
    StableHlo.unary main_v1132 main_v1133 (broadcastInDim S2048x1 ![0] bcast_S2048_S2048x1_0 : (⟨S2048, .f32⟩ : BufTy).Contents (Elt F) → (⟨S2048x1, .f32⟩ : BufTy).Contents (Elt F)),
    StableHlo.binary main_v96 main_v1097 main_v1134 ((fun l r => Host.dotGeneral dot_S2048x256_S256x8_S2048x8_1_0_0_1_n_n none l r) : (⟨S2048x256, .f32⟩ : BufTy).Contents (Elt F) → (⟨S256x8, .f32⟩ : BufTy).Contents (Elt F) → (⟨S2048x8, .f32⟩ : BufTy).Contents (Elt F)),
    StableHlo.binary main_v96 main_v1097 main_v1135 ((fun l r => Host.dotGeneral dot_S2048x256_S256x8_S2048x8_1_0_0_1_n_n none l r) : (⟨S2048x256, .f32⟩ : BufTy).Contents (Elt F) → (⟨S256x8, .f32⟩ : BufTy).Contents (Elt F) → (⟨S2048x8, .f32⟩ : BufTy).Contents (Elt F)) ]

set_option maxRecDepth 16384 in
set_option maxHeartbeats 4000000 in
/-- The window is that line: the called functions unfold at their calls and sequencing re-associates. -/
theorem main_part22_eq (c : Dev nD) : main_part22 (F := F) c = StableHlo.seq ops_part22 := rfl

set_option maxRecDepth 16384 in
set_option maxHeartbeats 4000000 in
/-- Every operation of the window is good; the result's index is compared by computation. -/
theorem ops_part22_good : (ops_part22 : List (HloOp τ sig (Elt F))).Forall (Good 12) :=
  ⟨binary_good (h := by decide) .., unary_good (h := by decide) .., nullary_good (h := by decide) .., binary_good (h := by decide) ..,
    unary_good (h := by decide) .., unary_good (h := by decide) .., binary_good (h := by decide) .., unary_good (h := by decide) ..,
    binary_good (h := by decide) .., nullary_good (h := by decide) .., unary_good (h := by decide) .., binary_good (h := by decide) ..,
    nullary_good (h := by decide) .., unary_good (h := by decide) .., binary_good (h := by decide) .., nullary_good (h := by decide) ..,
    unary_good (h := by decide) .., unary_good (h := by decide) .., ternary_good (h := by decide) .., unary_good (h := by decide) ..,
    nullary_good (h := by decide) .., unary_good (h := by decide) .., binary_good (h := by decide) .., ternary_good (h := by decide) ..,
    unary_good (h := by decide) .., unary_good (h := by decide) .., unary_good (h := by decide) .., reshape_good (h := by decide) ..,
    binary_good (h := by decide) .., nullary_good (h := by decide) .., binary_good (h := by decide) .., unary_good (h := by decide) ..,
    unary_good (h := by decide) .., binary_good (h := by decide) .., unary_good (h := by decide) .., unary_good (h := by decide) ..,
    unary_good (h := by decide) .., unary_good (h := by decide) .., binary_good (h := by decide) .., binary_good (h := by decide) ..,
    nullary_good (h := by decide) .., nullary_good (h := by decide) .., nullary_good (h := by decide) .., unary_good (h := by decide) ..,
    binary_good (h := by decide) .., binary_good (h := by decide) .., unary_good (h := by decide) .., nullary_good (h := by decide) ..,
    unary_good (h := by decide) .., binary_good (h := by decide) .., nullary_good (h := by decide) .., unary_good (h := by decide) ..,
    binary_good (h := by decide) .., nullary_good (h := by decide) .., unary_good (h := by decide) .., unary_good (h := by decide) ..,
    ternary_good (h := by decide) .., binary_good (h := by decide) .., unary_good (h := by decide) .., binary_good (h := by decide) ..,
    nullary_good (h := by decide) .., unary_good (h := by decide) .., binary_good (h := by decide) .., unary_good (h := by decide) ..,
    binary_good (h := by decide) .., binary_good (h := by decide) .., nullary_good (h := by decide) .., binary_good (h := by decide) ..,
    unary_good (h := by decide) .., unary_good (h := by decide) .., binary_good (h := by decide) .., nullary_good (h := by decide) ..,
    binary_good (h := by decide) .., unary_good (h := by decide) .., binary_good (h := by decide) .., binary_good (h := by decide) ..⟩

end Cert.ReferenceIdeal.Hand

end
-- ==== Proof.Ref.W23.lean ====
import proofs.«146970_j35948876268088_1_alg».proof.ReferenceIdeal.P04
import proofs.«146970_j35948876268088_1_alg».proof.Proof.Ref.Keep

noncomputable section

namespace Cert.ReferenceIdeal.Hand

open Cert.ReferenceIdeal Idealize.ShloMosaic Idealize.ShloMosaic.TcCoe Idealize.SL.Sem Idealize.ShloMosaic.StableHlo

variable {F : FTy → Type} [FloatOps F]

variable [Facts]
open Facts₀ Facts

set_option maxHeartbeats 4000000 in
/-- The operations of window 23, in order; a called function's operations stand in its call's place. -/
abbrev ops_part23 : List (HloOp τ sig (Elt F)) :=
  [ StableHlo.binary main_v89 main_v1097 main_v1136 ((fun l r => Host.dotGeneral dot_S2048x256_S256x8_S2048x8_1_0_0_1_n_n none l r) : (⟨S2048x256, .f32⟩ : BufTy).Contents (Elt F) → (⟨S256x8, .f32⟩ : BufTy).Contents (Elt F) → (⟨S2048x8, .f32⟩ : BufTy).Contents (Elt F)),
    StableHlo.unary main_v1094 main_v1137 ((extractStridedSlice S8x1 ![0, 0] · slices_S16x1_S8x1_0_0) : (⟨S16x1, .f32⟩ : BufTy).Contents (Elt F) → (⟨S8x1, .f32⟩ : BufTy).Contents (Elt F)),
    StableHlo.binary main_v1135 main_v1137 main_v1138 ((fun l r => Host.dotGeneral dot_S2048x8_S8x1_S2048x1_1_0_0_1_n_n none l r) : (⟨S2048x8, .f32⟩ : BufTy).Contents (Elt F) → (⟨S8x1, .f32⟩ : BufTy).Contents (Elt F) → (⟨S2048x1, .f32⟩ : BufTy).Contents (Elt F)),
    StableHlo.unary main_v1094 main_v1139 ((extractStridedSlice S8x1 ![8, 0] · slices_S16x1_S8x1_8_0) : (⟨S16x1, .f32⟩ : BufTy).Contents (Elt F) → (⟨S8x1, .f32⟩ : BufTy).Contents (Elt F)),
    StableHlo.binary main_v1136 main_v1139 main_v1140 ((fun l r => Host.dotGeneral dot_S2048x8_S8x1_S2048x1_1_0_0_1_n_n none l r) : (⟨S2048x8, .f32⟩ : BufTy).Contents (Elt F) → (⟨S8x1, .f32⟩ : BufTy).Contents (Elt F) → (⟨S2048x1, .f32⟩ : BufTy).Contents (Elt F)),
    StableHlo.unary main_v1140 main_v1141 ((transpose S1x2048 [1, 0] · transposes_S2048x1_S1x2048_1_0) : (⟨S2048x1, .f32⟩ : BufTy).Contents (Elt F) → (⟨S1x2048, .f32⟩ : BufTy).Contents (Elt F)),
    StableHlo.unary main_v1138 main_v1142 (broadcastInDim S2048x2048 ![0, 1] bcast_S2048x1_S2048x2048_0_1 : (⟨S2048x1, .f32⟩ : BufTy).Contents (Elt F) → (⟨S2048x2048, .f32⟩ : BufTy).Contents (Elt F)),
    StableHlo.unary main_v1141 main_v1143 (broadcastInDim S2048x2048 ![0, 1] bcast_S1x2048_S2048x2048_0_1 : (⟨S1x2048, .f32⟩ : BufTy).Contents (Elt F) → (⟨S2048x2048, .f32⟩ : BufTy).Contents (Elt F)),
    StableHlo.binary main_v1142 main_v1143 main_v1144 (addf : (⟨S2048x2048, .f32⟩ : BufTy).Contents (Elt F) → (⟨S2048x2048, .f32⟩ : BufTy).Contents (Elt F) → (⟨S2048x2048, .f32⟩ : BufTy).Contents (Elt F)),
    StableHlo.nullary main_cst_242 (constant S_ .f32 0x3E4CCCCD#32),
    StableHlo.TRef.nullary main_call50.cst (constant S_ .f32 0x00000000#32),
    StableHlo.TRef.unary main_call50.cst main_call50.v0 (broadcastInDim S2048x2048 ![] bcast_S_S2048x2048),
    StableHlo.TRef.binary (StableHlo.TRef.of (T := ⟨S2048x2048, .f32⟩) main_v1144) main_call50.v0 main_call50.v1 (cmpf .oge),
    StableHlo.TRef.unary (StableHlo.TRef.of (T := ⟨S_, .f32⟩) main_cst_242) main_call50.v2 id,
    StableHlo.TRef.unary main_call50.v2 main_call50.v3 (broadcastInDim S2048x2048 ![] bcast_S_S2048x2048),
    StableHlo.TRef.binary main_call50.v3 (StableHlo.TRef.of (T := ⟨S2048x2048, .f32⟩) main_v1144) main_call50.v4 mulf,
    StableHlo.TRef.ternary main_call50.v1 (StableHlo.TRef.of (T := ⟨S2048x2048, .f32⟩) main_v1144) main_call50.v4 main_call50.call0.v0 select,
    StableHlo.nullary main_cst_243 (constant S_ .f32 0x7F800000#32),
    StableHlo.binary main_v1129 main_cst_243 main_v1146 ((fun x v => Host.reduce FloatOps.minimumf x v reducesTo_S2048x1_S_d0_1 h_S_) : (⟨S2048x1, .f32⟩ : BufTy).Contents (Elt F) → (⟨S_, .f32⟩ : BufTy).Contents (Elt F) → (⟨S_, .f32⟩ : BufTy).Contents (Elt F)),
    StableHlo.unary main_v1146 main_v1147 (broadcastInDim S2048x1 ![] bcast_S_S2048x1 : (⟨S_, .f32⟩ : BufTy).Contents (Elt F) → (⟨S2048x1, .f32⟩ : BufTy).Contents (Elt F)),
    StableHlo.binary main_v1129 main_v1147 main_v1148 (subf : (⟨S2048x1, .f32⟩ : BufTy).Contents (Elt F) → (⟨S2048x1, .f32⟩ : BufTy).Contents (Elt F) → (⟨S2048x1, .f32⟩ : BufTy).Contents (Elt F)),
    StableHlo.nullary main_cst_244 (constant S_ .f32 0xFF800000#32),
    StableHlo.binary main_v1129 main_cst_244 main_v1149 ((fun x v => Host.reduce FloatOps.maximumf x v reducesTo_S2048x1_S_d0_1 h_S_) : (⟨S2048x1, .f32⟩ : BufTy).Contents (Elt F) → (⟨S_, .f32⟩ : BufTy).Contents (Elt F) → (⟨S_, .f32⟩ : BufTy).Contents (Elt F)),
    StableHlo.nullary main_cst_245 (constant S_ .f32 0x7F800000#32),
    StableHlo.binary main_v1129 main_cst_245 main_v1150 ((fun x v => Host.reduce FloatOps.minimumf x v reducesTo_S2048x1_S_d0_1 h_S_) : (⟨S2048x1, .f32⟩ : BufTy).Contents (Elt F) → (⟨S_, .f32⟩ : BufTy).Contents (Elt F) → (⟨S_, .f32⟩ : BufTy).Contents (Elt F)),
    StableHlo.binary main_v1149 main_v1150 main_v1151 (subf : (⟨S_, .f32⟩ : BufTy).Contents (Elt F) → (⟨S_, .f32⟩ : BufTy).Contents (Elt F) → (⟨S_, .f32⟩ : BufTy).Contents (Elt F)),
    StableHlo.unary main_v1151 main_v1152 (broadcastInDim S2048x1 ![] bcast_S_S2048x1 : (⟨S_, .f32⟩ : BufTy).Contents (Elt F) → (⟨S2048x1, .f32⟩ : BufTy).Contents (Elt F)),
    StableHlo.binary main_v1148 main_v1152 main_v1153 (Host.divf : (⟨S2048x1, .f32⟩ : BufTy).Contents (Elt F) → (⟨S2048x1, .f32⟩ : BufTy).Contents (Elt F) → (⟨S2048x1, .f32⟩ : BufTy).Contents (Elt F)),
    StableHlo.nullary main_cst_246 (constant S_ .f32 0xFF800000#32),
    StableHlo.binary main_v1145 main_cst_246 main_v1154 ((fun x v => Host.reduce FloatOps.maximumf x v reducesTo_S2048x2048_S_d0_1 h_S_) : (⟨S2048x2048, .f32⟩ : BufTy).Contents (Elt F) → (⟨S_, .f32⟩ : BufTy).Contents (Elt F) → (⟨S_, .f32⟩ : BufTy).Contents (Elt F)),
    StableHlo.unary main_v1154 main_v1155 (broadcastInDim S2048x1 ![] bcast_S_S2048x1 : (⟨S_, .f32⟩ : BufTy).Contents (Elt F) → (⟨S2048x1, .f32⟩ : BufTy).Contents (Elt F)),
    StableHlo.binary main_v1153 main_v1155 main_v1156 (mulf : (⟨S2048x1, .f32⟩ : BufTy).Contents (Elt F) → (⟨S2048x1, .f32⟩ : BufTy).Contents (Elt F) → (⟨S2048x1, .f32⟩ : BufTy).Contents (Elt F)),
    StableHlo.nullary main_cst_247 (constant S_ .f32 0x00000000#32),
    StableHlo.unary main_cst_247 main_v1157 (broadcastInDim S2048x2048 ![] bcast_S_S2048x2048 : (⟨S_, .f32⟩ : BufTy).Contents (Elt F) → (⟨S2048x2048, .f32⟩ : BufTy).Contents (Elt F)),
    StableHlo.binary main_v74 main_v1157 main_v1158 (cmpf .ogt : (⟨S2048x2048, .f32⟩ : BufTy).Contents (Elt F) → (⟨S2048x2048, .f32⟩ : BufTy).Contents (Elt F) → (⟨S2048x2048, .i1⟩ : BufTy).Contents (Elt F)),
    StableHlo.unary main_v1156 main_v1159 (broadcastInDim S2048x2048 ![0, 1] bcast_S2048x1_S2048x2048_0_1 : (⟨S2048x1, .f32⟩ : BufTy).Contents (Elt F) → (⟨S2048x2048, .f32⟩ : BufTy).Contents (Elt F)),
    StableHlo.binary main_v1145 main_v1159 main_v1160 (addf : (⟨S2048x2048, .f32⟩ : BufTy).Contents (Elt F) → (⟨S2048x2048, .f32⟩ : BufTy).Contents (Elt F) → (⟨S2048x2048, .f32⟩ : BufTy).Contents (Elt F)),
    StableHlo.nullary main_cst_248 (constant S_ .f32 0xD368D4A5#32),
    StableHlo.TRef.unary (StableHlo.TRef.of (T := ⟨S_, .f32⟩) main_cst_248) main_call51.v0 id,
    StableHlo.TRef.unary main_call51.v0 main_call51.v1 (broadcastInDim S2048x2048 ![] bcast_S_S2048x2048),
    StableHlo.TRef.ternary (StableHlo.TRef.of (T := ⟨S2048x2048, .i1⟩) main_v1158) (StableHlo.TRef.of (T := ⟨S2048x2048, .f32⟩) main_v1160) main_call51.v1 main_call51.v2 select,
    StableHlo.nullary main_cst_249 (constant S_ .f32 0xFF800000#32),
    StableHlo.binary main_v1161 main_cst_249 main_v1162 ((fun x v => Host.reduce FloatOps.maximumf x v reducesTo_S2048x2048_S2048_d1 h_S_) : (⟨S2048x2048, .f32⟩ : BufTy).Contents (Elt F) → (⟨S_, .f32⟩ : BufTy).Contents (Elt F) → (⟨S2048, .f32⟩ : BufTy).Contents (Elt F)),
    StableHlo.nullary main_cst_250 (constant S_ .f32 0xFF800000#32),
    StableHlo.unary main_cst_250 main_v1163 (broadcastInDim S2048 ![] bcast_S_S2048 : (⟨S_, .f32⟩ : BufTy).Contents (Elt F) → (⟨S2048, .f32⟩ : BufTy).Contents (Elt F)),
    StableHlo.binary main_v1163 main_v1162 main_v1164 (maximumf : (⟨S2048, .f32⟩ : BufTy).Contents (Elt F) → (⟨S2048, .f32⟩ : BufTy).Contents (Elt F) → (⟨S2048, .f32⟩ : BufTy).Contents (Elt F)),
    StableHlo.unary main_v1164 main_v1165 (broadcastInDim S2048x1 ![0] bcast_S2048_S2048x1_0 : (⟨S2048, .f32⟩ : BufTy).Contents (Elt F) → (⟨S2048x1, .f32⟩ : BufTy).Contents (Elt F)),
    StableHlo.unary main_v1165 main_v1166 (broadcastInDim S2048x2048 ![0, 1] bcast_S2048x1_S2048x2048_0_1 : (⟨S2048x1, .f32⟩ : BufTy).Contents (Elt F) → (⟨S2048x2048, .f32⟩ : BufTy).Contents (Elt F)),
    StableHlo.binary main_v1161 main_v1166 main_v1167 (subf : (⟨S2048x2048, .f32⟩ : BufTy).Contents (Elt F) → (⟨S2048x2048, .f32⟩ : BufTy).Contents (Elt F) → (⟨S2048x2048, .f32⟩ : BufTy).Contents (Elt F)),
    StableHlo.unary main_v1167 main_v1168 (Host.exp : (⟨S2048x2048, .f32⟩ : BufTy).Contents (Elt F) → (⟨S2048x2048, .f32⟩ : BufTy).Contents (Elt F)),
    StableHlo.nullary main_cst_251 (constant S_ .f32 0x00000000#32),
    StableHlo.binary main_v1168 main_cst_251 main_v1169 ((fun x v => Host.reduceAdd x v reducesTo_S2048x2048_S2048_d1 h_S_) : (⟨S2048x2048, .f32⟩ : BufTy).Contents (Elt F) → (⟨S_, .f32⟩ : BufTy).Contents (Elt F) → (⟨S2048, .f32⟩ : BufTy).Contents (Elt F)),
    StableHlo.unary main_v1169 main_v1170 (broadcastInDim S2048x1 ![0] bcast_S2048_S2048x1_0 : (⟨S2048, .f32⟩ : BufTy).Contents (Elt F) → (⟨S2048x1, .f32⟩ : BufTy).Contents (Elt F)),
    StableHlo.unary main_v1170 main_v1171 (broadcastInDim S2048x2048 ![0, 1] bcast_S2048x1_S2048x2048_0_1 : (⟨S2048x1, .f32⟩ : BufTy).Contents (Elt F) → (⟨S2048x2048, .f32⟩ : BufTy).Contents (Elt F)),
    StableHlo.binary main_v1168 main_v1171 main_v1172 (Host.divf : (⟨S2048x2048, .f32⟩ : BufTy).Contents (Elt F) → (⟨S2048x2048, .f32⟩ : BufTy).Contents (Elt F) → (⟨S2048x2048, .f32⟩ : BufTy).Contents (Elt F)),
    StableHlo.unary main_v1172 main_v1173 ((transpose S2048x2048 [1, 0] · transposes_S2048x2048_S2048x2048_1_0) : (⟨S2048x2048, .f32⟩ : BufTy).Contents (Elt F) → (⟨S2048x2048, .f32⟩ : BufTy).Contents (Elt F)),
    StableHlo.binary main_v1173 main_v1134 main_v1174 ((fun l r => Host.dotGeneral dot_S2048x2048_S2048x8_S2048x8_1_0_0_1_n_n none l r) : (⟨S2048x2048, .f32⟩ : BufTy).Contents (Elt F) → (⟨S2048x8, .f32⟩ : BufTy).Contents (Elt F) → (⟨S2048x8, .f32⟩ : BufTy).Contents (Elt F)),
    StableHlo.TRef.nullary main_call52.cst (constant S_ .f32 0x00000000#32),
    StableHlo.TRef.unary main_call52.cst main_call52.v0 (broadcastInDim S2048x8 ![] bcast_S_S2048x8),
    StableHlo.TRef.binary (StableHlo.TRef.of (T := ⟨S2048x8, .f32⟩) main_v1174) main_call52.v0 main_call52.v1 (cmpf .ogt),
    StableHlo.TRef.nullary main_call52.cst_0 (constant S_ .f32 0x00000000#32),
    StableHlo.TRef.unary main_call52.cst_0 main_call52.v2 (broadcastInDim S2048x8 ![] bcast_S_S2048x8),
    StableHlo.TRef.binary (StableHlo.TRef.of (T := ⟨S2048x8, .f32⟩) main_v1174) main_call52.v2 main_call52.v3 (cmpf .ogt),
    StableHlo.TRef.nullary main_call52.cst_1 (constant S_ .f32 0x00000000#32),
    StableHlo.TRef.unary main_call52.cst_1 main_call52.call0.v0 id,
    StableHlo.TRef.unary main_call52.call0.v0 main_call52.call0.v1 (broadcastInDim S2048x8 ![] bcast_S_S2048x8),
    StableHlo.TRef.ternary main_call52.v3 main_call52.call0.v1 (StableHlo.TRef.of (T := ⟨S2048x8, .f32⟩) main_v1174) main_call52.call0.v2 select,
    StableHlo.TRef.unary main_call52.call0.v2 main_call52.v5 Host.expm1,
    StableHlo.TRef.nullary main_call52.cst_2 (constant S_ .f32 0x3F800000#32),
    StableHlo.TRef.unary main_call52.cst_2 main_call52.v6 (broadcastInDim S2048x8 ![] bcast_S_S2048x8),
    StableHlo.TRef.binary main_call52.v6 main_call52.v5 main_call52.v7 mulf,
    StableHlo.TRef.ternary main_call52.v1 (StableHlo.TRef.of (T := ⟨S2048x8, .f32⟩) main_v1174) main_call52.v7 main_call52.call1.v0 select,
    StableHlo.unary main_v74 main_v1176 ((transpose S2048x2048 [1, 0] · transposes_S2048x2048_S2048x2048_1_0) : (⟨S2048x2048, .f32⟩ : BufTy).Contents (Elt F) → (⟨S2048x2048, .f32⟩ : BufTy).Contents (Elt F)),
    StableHlo.binary main_v89 main_v1097 main_v1177 ((fun l r => Host.dotGeneral dot_S2048x256_S256x8_S2048x8_1_0_0_1_n_n none l r) : (⟨S2048x256, .f32⟩ : BufTy).Contents (Elt F) → (⟨S256x8, .f32⟩ : BufTy).Contents (Elt F) → (⟨S2048x8, .f32⟩ : BufTy).Contents (Elt F)),
    StableHlo.binary main_v96 main_v1097 main_v1178 ((fun l r => Host.dotGeneral dot_S2048x256_S256x8_S2048x8_1_0_0_1_n_n none l r) : (⟨S2048x256, .f32⟩ : BufTy).Contents (Elt F) → (⟨S256x8, .f32⟩ : BufTy).Contents (Elt F) → (⟨S2048x8, .f32⟩ : BufTy).Contents (Elt F)),
    StableHlo.unary main_v1095 main_v1179 ((extractStridedSlice S8x1 ![0, 0] · slices_S16x1_S8x1_0_0) : (⟨S16x1, .f32⟩ : BufTy).Contents (Elt F) → (⟨S8x1, .f32⟩ : BufTy).Contents (Elt F)),
    StableHlo.binary main_v1177 main_v1179 main_v1180 ((fun l r => Host.dotGeneral dot_S2048x8_S8x1_S2048x1_1_0_0_1_n_n none l r) : (⟨S2048x8, .f32⟩ : BufTy).Contents (Elt F) → (⟨S8x1, .f32⟩ : BufTy).Contents (Elt F) → (⟨S2048x1, .f32⟩ : BufTy).Contents (Elt F)),
    StableHlo.unary main_v1095 main_v1181 ((extractStridedSlice S8x1 ![8, 0] · slices_S16x1_S8x1_8_0) : (⟨S16x1, .f32⟩ : BufTy).Contents (Elt F) → (⟨S8x1, .f32⟩ : BufTy).Contents (Elt F)),
    StableHlo.binary main_v1178 main_v1181 main_v1182 ((fun l r => Host.dotGeneral dot_S2048x8_S8x1_S2048x1_1_0_0_1_n_n none l r) : (⟨S2048x8, .f32⟩ : BufTy).Contents (Elt F) → (⟨S8x1, .f32⟩ : BufTy).Contents (Elt F) → (⟨S2048x1, .f32⟩ : BufTy).Contents (Elt F)),
    StableHlo.unary main_v1182 main_v1183 ((transpose S1x2048 [1, 0] · transposes_S2048x1_S1x2048_1_0) : (⟨S2048x1, .f32⟩ : BufTy).Contents (Elt F) → (⟨S1x2048, .f32⟩ : BufTy).Contents (Elt F)),
    StableHlo.unary main_v1180 main_v1184 (broadcastInDim S2048x2048 ![0, 1] bcast_S2048x1_S2048x2048_0_1 : (⟨S2048x1, .f32⟩ : BufTy).Contents (Elt F) → (⟨S2048x2048, .f32⟩ : BufTy).Contents (Elt F)),
    StableHlo.unary main_v1183 main_v1185 (broadcastInDim S2048x2048 ![0, 1] bcast_S1x2048_S2048x2048_0_1 : (⟨S1x2048, .f32⟩ : BufTy).Contents (Elt F) → (⟨S2048x2048, .f32⟩ : BufTy).Contents (Elt F)) ]

set_option maxRecDepth 16384 in
set_option maxHeartbeats 4000000 in
/-- The window is that line: the called functions unfold at their calls and sequencing re-associates. -/
theorem main_part23_eq (c : Dev nD) : main_part23 (F := F) c = StableHlo.seq ops_part23 := rfl

set_option maxRecDepth 16384 in
set_option maxHeartbeats 4000000 in
/-- Every operation of the window is good; the result's index is compared by computation. -/
theorem ops_part23_good : (ops_part23 : List (HloOp τ sig (Elt F))).Forall (Good 12) :=
  ⟨binary_good (h := by decide) .., unary_good (h := by decide) .., binary_good (h := by decide) .., unary_good (h := by decide) ..,
    binary_good (h := by decide) .., unary_good (h := by decide) .., unary_good (h := by decide) .., unary_good (h := by decide) ..,
    binary_good (h := by decide) .., nullary_good (h := by decide) .., nullary_good (h := by decide) .., unary_good (h := by decide) ..,
    binary_good (h := by decide) .., unary_good (h := by decide) .., unary_good (h := by decide) .., binary_good (h := by decide) ..,
    ternary_good (h := by decide) .., nullary_good (h := by decide) .., binary_good (h := by decide) .., unary_good (h := by decide) ..,
    binary_good (h := by decide) .., nullary_good (h := by decide) .., binary_good (h := by decide) .., nullary_good (h := by decide) ..,
    binary_good (h := by decide) .., binary_good (h := by decide) .., unary_good (h := by decide) .., binary_good (h := by decide) ..,
    nullary_good (h := by decide) .., binary_good (h := by decide) .., unary_good (h := by decide) .., binary_good (h := by decide) ..,
    nullary_good (h := by decide) .., unary_good (h := by decide) .., binary_good (h := by decide) .., unary_good (h := by decide) ..,
    binary_good (h := by decide) .., nullary_good (h := by decide) .., unary_good (h := by decide) .., unary_good (h := by decide) ..,
    ternary_good (h := by decide) .., nullary_good (h := by decide) .., binary_good (h := by decide) .., nullary_good (h := by decide) ..,
    unary_good (h := by decide) .., binary_good (h := by decide) .., unary_good (h := by decide) .., unary_good (h := by decide) ..,
    binary_good (h := by decide) .., unary_good (h := by decide) .., nullary_good (h := by decide) .., binary_good (h := by decide) ..,
    unary_good (h := by decide) .., unary_good (h := by decide) .., binary_good (h := by decide) .., unary_good (h := by decide) ..,
    binary_good (h := by decide) .., nullary_good (h := by decide) .., unary_good (h := by decide) .., binary_good (h := by decide) ..,
    nullary_good (h := by decide) .., unary_good (h := by decide) .., binary_good (h := by decide) .., nullary_good (h := by decide) ..,
    unary_good (h := by decide) .., unary_good (h := by decide) .., ternary_good (h := by decide) .., unary_good (h := by decide) ..,
    nullary_good (h := by decide) .., unary_good (h := by decide) .., binary_good (h := by decide) .., ternary_good (h := by decide) ..,
    unary_good (h := by decide) .., binary_good (h := by decide) .., binary_good (h := by decide) .., unary_good (h := by decide) ..,
    binary_good (h := by decide) .., unary_good (h := by decide) .., binary_good (h := by decide) .., unary_good (h := by decide) ..,
    unary_good (h := by decide) .., unary_good (h := by decide) ..⟩

end Cert.ReferenceIdeal.Hand

end
-- ==== Proof.Ref.W24.lean ====
import proofs.«146970_j35948876268088_1_alg».proof.ReferenceIdeal.P05
import proofs.«146970_j35948876268088_1_alg».proof.Proof.Ref.Keep

noncomputable section

namespace Cert.ReferenceIdeal.Hand

open Cert.ReferenceIdeal Idealize.ShloMosaic Idealize.ShloMosaic.TcCoe Idealize.SL.Sem Idealize.ShloMosaic.StableHlo

variable {F : FTy → Type} [FloatOps F]

variable [Facts]
open Facts₀ Facts

set_option maxHeartbeats 4000000 in
/-- The operations of window 24, in order; a called function's operations stand in its call's place. -/
abbrev ops_part24 : List (HloOp τ sig (Elt F)) :=
  [ StableHlo.binary main_v1184 main_v1185 main_v1186 (addf : (⟨S2048x2048, .f32⟩ : BufTy).Contents (Elt F) → (⟨S2048x2048, .f32⟩ : BufTy).Contents (Elt F) → (⟨S2048x2048, .f32⟩ : BufTy).Contents (Elt F)),
    StableHlo.nullary main_cst_252 (constant S_ .f32 0x3E4CCCCD#32),
    StableHlo.TRef.nullary main_call53.cst (constant S_ .f32 0x00000000#32),
    StableHlo.TRef.unary main_call53.cst main_call53.v0 (broadcastInDim S2048x2048 ![] bcast_S_S2048x2048),
    StableHlo.TRef.binary (StableHlo.TRef.of (T := ⟨S2048x2048, .f32⟩) main_v1186) main_call53.v0 main_call53.v1 (cmpf .oge),
    StableHlo.TRef.unary (StableHlo.TRef.of (T := ⟨S_, .f32⟩) main_cst_252) main_call53.v2 id,
    StableHlo.TRef.unary main_call53.v2 main_call53.v3 (broadcastInDim S2048x2048 ![] bcast_S_S2048x2048),
    StableHlo.TRef.binary main_call53.v3 (StableHlo.TRef.of (T := ⟨S2048x2048, .f32⟩) main_v1186) main_call53.v4 mulf,
    StableHlo.TRef.ternary main_call53.v1 (StableHlo.TRef.of (T := ⟨S2048x2048, .f32⟩) main_v1186) main_call53.v4 main_call53.call0.v0 select,
    StableHlo.nullary main_cst_253 (constant S_ .f32 0x7F800000#32),
    StableHlo.binary main_v1133 main_cst_253 main_v1188 ((fun x v => Host.reduce FloatOps.minimumf x v reducesTo_S2048x1_S_d0_1 h_S_) : (⟨S2048x1, .f32⟩ : BufTy).Contents (Elt F) → (⟨S_, .f32⟩ : BufTy).Contents (Elt F) → (⟨S_, .f32⟩ : BufTy).Contents (Elt F)),
    StableHlo.unary main_v1188 main_v1189 (broadcastInDim S2048x1 ![] bcast_S_S2048x1 : (⟨S_, .f32⟩ : BufTy).Contents (Elt F) → (⟨S2048x1, .f32⟩ : BufTy).Contents (Elt F)),
    StableHlo.binary main_v1133 main_v1189 main_v1190 (subf : (⟨S2048x1, .f32⟩ : BufTy).Contents (Elt F) → (⟨S2048x1, .f32⟩ : BufTy).Contents (Elt F) → (⟨S2048x1, .f32⟩ : BufTy).Contents (Elt F)),
    StableHlo.nullary main_cst_254 (constant S_ .f32 0xFF800000#32),
    StableHlo.binary main_v1133 main_cst_254 main_v1191 ((fun x v => Host.reduce FloatOps.maximumf x v reducesTo_S2048x1_S_d0_1 h_S_) : (⟨S2048x1, .f32⟩ : BufTy).Contents (Elt F) → (⟨S_, .f32⟩ : BufTy).Contents (Elt F) → (⟨S_, .f32⟩ : BufTy).Contents (Elt F)),
    StableHlo.nullary main_cst_255 (constant S_ .f32 0x7F800000#32),
    StableHlo.binary main_v1133 main_cst_255 main_v1192 ((fun x v => Host.reduce FloatOps.minimumf x v reducesTo_S2048x1_S_d0_1 h_S_) : (⟨S2048x1, .f32⟩ : BufTy).Contents (Elt F) → (⟨S_, .f32⟩ : BufTy).Contents (Elt F) → (⟨S_, .f32⟩ : BufTy).Contents (Elt F)),
    StableHlo.binary main_v1191 main_v1192 main_v1193 (subf : (⟨S_, .f32⟩ : BufTy).Contents (Elt F) → (⟨S_, .f32⟩ : BufTy).Contents (Elt F) → (⟨S_, .f32⟩ : BufTy).Contents (Elt F)),
    StableHlo.unary main_v1193 main_v1194 (broadcastInDim S2048x1 ![] bcast_S_S2048x1 : (⟨S_, .f32⟩ : BufTy).Contents (Elt F) → (⟨S2048x1, .f32⟩ : BufTy).Contents (Elt F)),
    StableHlo.binary main_v1190 main_v1194 main_v1195 (Host.divf : (⟨S2048x1, .f32⟩ : BufTy).Contents (Elt F) → (⟨S2048x1, .f32⟩ : BufTy).Contents (Elt F) → (⟨S2048x1, .f32⟩ : BufTy).Contents (Elt F)),
    StableHlo.nullary main_cst_256 (constant S_ .f32 0xFF800000#32),
    StableHlo.binary main_v1187 main_cst_256 main_v1196 ((fun x v => Host.reduce FloatOps.maximumf x v reducesTo_S2048x2048_S_d0_1 h_S_) : (⟨S2048x2048, .f32⟩ : BufTy).Contents (Elt F) → (⟨S_, .f32⟩ : BufTy).Contents (Elt F) → (⟨S_, .f32⟩ : BufTy).Contents (Elt F)),
    StableHlo.unary main_v1196 main_v1197 (broadcastInDim S2048x1 ![] bcast_S_S2048x1 : (⟨S_, .f32⟩ : BufTy).Contents (Elt F) → (⟨S2048x1, .f32⟩ : BufTy).Contents (Elt F)),
    StableHlo.binary main_v1195 main_v1197 main_v1198 (mulf : (⟨S2048x1, .f32⟩ : BufTy).Contents (Elt F) → (⟨S2048x1, .f32⟩ : BufTy).Contents (Elt F) → (⟨S2048x1, .f32⟩ : BufTy).Contents (Elt F)),
    StableHlo.nullary main_cst_257 (constant S_ .f32 0x00000000#32),
    StableHlo.unary main_cst_257 main_v1199 (broadcastInDim S2048x2048 ![] bcast_S_S2048x2048 : (⟨S_, .f32⟩ : BufTy).Contents (Elt F) → (⟨S2048x2048, .f32⟩ : BufTy).Contents (Elt F)),
    StableHlo.binary main_v1176 main_v1199 main_v1200 (cmpf .ogt : (⟨S2048x2048, .f32⟩ : BufTy).Contents (Elt F) → (⟨S2048x2048, .f32⟩ : BufTy).Contents (Elt F) → (⟨S2048x2048, .i1⟩ : BufTy).Contents (Elt F)),
    StableHlo.unary main_v1198 main_v1201 (broadcastInDim S2048x2048 ![0, 1] bcast_S2048x1_S2048x2048_0_1 : (⟨S2048x1, .f32⟩ : BufTy).Contents (Elt F) → (⟨S2048x2048, .f32⟩ : BufTy).Contents (Elt F)),
    StableHlo.binary main_v1187 main_v1201 main_v1202 (addf : (⟨S2048x2048, .f32⟩ : BufTy).Contents (Elt F) → (⟨S2048x2048, .f32⟩ : BufTy).Contents (Elt F) → (⟨S2048x2048, .f32⟩ : BufTy).Contents (Elt F)),
    StableHlo.nullary main_cst_258 (constant S_ .f32 0xD368D4A5#32),
    StableHlo.TRef.unary (StableHlo.TRef.of (T := ⟨S_, .f32⟩) main_cst_258) main_call54.v0 id,
    StableHlo.TRef.unary main_call54.v0 main_call54.v1 (broadcastInDim S2048x2048 ![] bcast_S_S2048x2048),
    StableHlo.TRef.ternary (StableHlo.TRef.of (T := ⟨S2048x2048, .i1⟩) main_v1200) (StableHlo.TRef.of (T := ⟨S2048x2048, .f32⟩) main_v1202) main_call54.v1 main_call54.v2 select,
    StableHlo.nullary main_cst_259 (constant S_ .f32 0xFF800000#32),
    StableHlo.binary main_v1203 main_cst_259 main_v1204 ((fun x v => Host.reduce FloatOps.maximumf x v reducesTo_S2048x2048_S2048_d1 h_S_) : (⟨S2048x2048, .f32⟩ : BufTy).Contents (Elt F) → (⟨S_, .f32⟩ : BufTy).Contents (Elt F) → (⟨S2048, .f32⟩ : BufTy).Contents (Elt F)),
    StableHlo.nullary main_cst_260 (constant S_ .f32 0xFF800000#32),
    StableHlo.unary main_cst_260 main_v1205 (broadcastInDim S2048 ![] bcast_S_S2048 : (⟨S_, .f32⟩ : BufTy).Contents (Elt F) → (⟨S2048, .f32⟩ : BufTy).Contents (Elt F)),
    StableHlo.binary main_v1205 main_v1204 main_v1206 (maximumf : (⟨S2048, .f32⟩ : BufTy).Contents (Elt F) → (⟨S2048, .f32⟩ : BufTy).Contents (Elt F) → (⟨S2048, .f32⟩ : BufTy).Contents (Elt F)),
    StableHlo.unary main_v1206 main_v1207 (broadcastInDim S2048x1 ![0] bcast_S2048_S2048x1_0 : (⟨S2048, .f32⟩ : BufTy).Contents (Elt F) → (⟨S2048x1, .f32⟩ : BufTy).Contents (Elt F)),
    StableHlo.unary main_v1207 main_v1208 (broadcastInDim S2048x2048 ![0, 1] bcast_S2048x1_S2048x2048_0_1 : (⟨S2048x1, .f32⟩ : BufTy).Contents (Elt F) → (⟨S2048x2048, .f32⟩ : BufTy).Contents (Elt F)),
    StableHlo.binary main_v1203 main_v1208 main_v1209 (subf : (⟨S2048x2048, .f32⟩ : BufTy).Contents (Elt F) → (⟨S2048x2048, .f32⟩ : BufTy).Contents (Elt F) → (⟨S2048x2048, .f32⟩ : BufTy).Contents (Elt F)),
    StableHlo.unary main_v1209 main_v1210 (Host.exp : (⟨S2048x2048, .f32⟩ : BufTy).Contents (Elt F) → (⟨S2048x2048, .f32⟩ : BufTy).Contents (Elt F)),
    StableHlo.nullary main_cst_261 (constant S_ .f32 0x00000000#32),
    StableHlo.binary main_v1210 main_cst_261 main_v1211 ((fun x v => Host.reduceAdd x v reducesTo_S2048x2048_S2048_d1 h_S_) : (⟨S2048x2048, .f32⟩ : BufTy).Contents (Elt F) → (⟨S_, .f32⟩ : BufTy).Contents (Elt F) → (⟨S2048, .f32⟩ : BufTy).Contents (Elt F)),
    StableHlo.unary main_v1211 main_v1212 (broadcastInDim S2048x1 ![0] bcast_S2048_S2048x1_0 : (⟨S2048, .f32⟩ : BufTy).Contents (Elt F) → (⟨S2048x1, .f32⟩ : BufTy).Contents (Elt F)),
    StableHlo.unary main_v1212 main_v1213 (broadcastInDim S2048x2048 ![0, 1] bcast_S2048x1_S2048x2048_0_1 : (⟨S2048x1, .f32⟩ : BufTy).Contents (Elt F) → (⟨S2048x2048, .f32⟩ : BufTy).Contents (Elt F)),
    StableHlo.binary main_v1210 main_v1213 main_v1214 (Host.divf : (⟨S2048x2048, .f32⟩ : BufTy).Contents (Elt F) → (⟨S2048x2048, .f32⟩ : BufTy).Contents (Elt F) → (⟨S2048x2048, .f32⟩ : BufTy).Contents (Elt F)),
    StableHlo.unary main_v1214 main_v1215 ((transpose S2048x2048 [1, 0] · transposes_S2048x2048_S2048x2048_1_0) : (⟨S2048x2048, .f32⟩ : BufTy).Contents (Elt F) → (⟨S2048x2048, .f32⟩ : BufTy).Contents (Elt F)),
    StableHlo.binary main_v1215 main_v1175 main_v1216 ((fun l r => Host.dotGeneral dot_S2048x2048_S2048x8_S2048x8_1_0_0_1_n_n none l r) : (⟨S2048x2048, .f32⟩ : BufTy).Contents (Elt F) → (⟨S2048x8, .f32⟩ : BufTy).Contents (Elt F) → (⟨S2048x8, .f32⟩ : BufTy).Contents (Elt F)),
    StableHlo.TRef.nullary main_call55.cst (constant S_ .f32 0x00000000#32),
    StableHlo.TRef.unary main_call55.cst main_call55.v0 (broadcastInDim S2048x8 ![] bcast_S_S2048x8),
    StableHlo.TRef.binary (StableHlo.TRef.of (T := ⟨S2048x8, .f32⟩) main_v1216) main_call55.v0 main_call55.v1 (cmpf .ogt),
    StableHlo.TRef.nullary main_call55.cst_0 (constant S_ .f32 0x00000000#32),
    StableHlo.TRef.unary main_call55.cst_0 main_call55.v2 (broadcastInDim S2048x8 ![] bcast_S_S2048x8),
    StableHlo.TRef.binary (StableHlo.TRef.of (T := ⟨S2048x8, .f32⟩) main_v1216) main_call55.v2 main_call55.v3 (cmpf .ogt),
    StableHlo.TRef.nullary main_call55.cst_1 (constant S_ .f32 0x00000000#32),
    StableHlo.TRef.unary main_call55.cst_1 main_call55.call0.v0 id,
    StableHlo.TRef.unary main_call55.call0.v0 main_call55.call0.v1 (broadcastInDim S2048x8 ![] bcast_S_S2048x8),
    StableHlo.TRef.ternary main_call55.v3 main_call55.call0.v1 (StableHlo.TRef.of (T := ⟨S2048x8, .f32⟩) main_v1216) main_call55.call0.v2 select,
    StableHlo.TRef.unary main_call55.call0.v2 main_call55.v5 Host.expm1,
    StableHlo.TRef.nullary main_call55.cst_2 (constant S_ .f32 0x3F800000#32),
    StableHlo.TRef.unary main_call55.cst_2 main_call55.v6 (broadcastInDim S2048x8 ![] bcast_S_S2048x8),
    StableHlo.TRef.binary main_call55.v6 main_call55.v5 main_call55.v7 mulf,
    StableHlo.TRef.ternary main_call55.v1 (StableHlo.TRef.of (T := ⟨S2048x8, .f32⟩) main_v1216) main_call55.v7 main_call55.call1.v0 select,
    StableHlo.nary ![main_v845, main_v969, main_v1093, main_v1217] main_v1218 (fun u => concatenate S2048x32 1 [⟨S2048x8, u 0⟩, ⟨S2048x8, u 1⟩, ⟨S2048x8, u 2⟩, ⟨S2048x8, u 3⟩] concatenates_S2048x8_S2048x8_S2048x8_S2048x8_S2048x32_d1),
    StableHlo.unary main_arg6 main_v1219 ((extractStridedSlice S1x16x16 ![0, 0, 0] · slices_S3x16x16_S1x16x16_0_0_0) : (⟨S3x16x16, .f32⟩ : BufTy).Contents (Elt F) → (⟨S1x16x16, .f32⟩ : BufTy).Contents (Elt F)),
    StableHlo.reshape main_v1219 main_v1220 rfl shapeCasts_S1x16x16_S16x16,
    StableHlo.binary main_v1220 main_v721 main_v1221 ((fun l r => Host.dotGeneral dot_S16x16_S16x8_S16x8_1_0_0_1_n_n none l r) : (⟨S16x16, .f32⟩ : BufTy).Contents (Elt F) → (⟨S16x8, .f32⟩ : BufTy).Contents (Elt F) → (⟨S16x8, .f32⟩ : BufTy).Contents (Elt F)),
    StableHlo.unary main_arg7 main_v1222 ((extractStridedSlice S1x16x16 ![0, 0, 0] · slices_S3x16x16_S1x16x16_0_0_0) : (⟨S3x16x16, .f32⟩ : BufTy).Contents (Elt F) → (⟨S1x16x16, .f32⟩ : BufTy).Contents (Elt F)),
    StableHlo.reshape main_v1222 main_v1223 rfl shapeCasts_S1x16x16_S16x16,
    StableHlo.binary main_v1223 main_v721 main_v1224 ((fun l r => Host.dotGeneral dot_S16x16_S16x8_S16x8_1_0_0_1_n_n none l r) : (⟨S16x16, .f32⟩ : BufTy).Contents (Elt F) → (⟨S16x8, .f32⟩ : BufTy).Contents (Elt F) → (⟨S16x8, .f32⟩ : BufTy).Contents (Elt F)),
    StableHlo.binary main_v1221 main_v1224 main_v1225 (addf : (⟨S16x8, .f32⟩ : BufTy).Contents (Elt F) → (⟨S16x8, .f32⟩ : BufTy).Contents (Elt F) → (⟨S16x8, .f32⟩ : BufTy).Contents (Elt F)),
    StableHlo.unary main_v1225 main_v1226 (Host.negf : (⟨S16x8, .f32⟩ : BufTy).Contents (Elt F) → (⟨S16x8, .f32⟩ : BufTy).Contents (Elt F)),
    StableHlo.unary main_v1226 main_v1227 (Host.exp : (⟨S16x8, .f32⟩ : BufTy).Contents (Elt F) → (⟨S16x8, .f32⟩ : BufTy).Contents (Elt F)),
    StableHlo.nullary main_cst_262 (constant S_ .f32 0x3F800000#32),
    StableHlo.unary main_cst_262 main_v1228 (broadcastInDim S16x8 ![] bcast_S_S16x8 : (⟨S_, .f32⟩ : BufTy).Contents (Elt F) → (⟨S16x8, .f32⟩ : BufTy).Contents (Elt F)),
    StableHlo.binary main_v1228 main_v1227 main_v1229 (addf : (⟨S16x8, .f32⟩ : BufTy).Contents (Elt F) → (⟨S16x8, .f32⟩ : BufTy).Contents (Elt F) → (⟨S16x8, .f32⟩ : BufTy).Contents (Elt F)),
    StableHlo.nullary main_cst_263 (constant S_ .f32 0x3F800000#32),
    StableHlo.unary main_cst_263 main_v1230 (broadcastInDim S16x8 ![] bcast_S_S16x8 : (⟨S_, .f32⟩ : BufTy).Contents (Elt F) → (⟨S16x8, .f32⟩ : BufTy).Contents (Elt F)),
    StableHlo.binary main_v1230 main_v1229 main_v1231 (Host.divf : (⟨S16x8, .f32⟩ : BufTy).Contents (Elt F) → (⟨S16x8, .f32⟩ : BufTy).Contents (Elt F) → (⟨S16x8, .f32⟩ : BufTy).Contents (Elt F)),
    StableHlo.unary main_arg6 main_v1232 ((extractStridedSlice S1x16x16 ![1, 0, 0] · slices_S3x16x16_S1x16x16_1_0_0) : (⟨S3x16x16, .f32⟩ : BufTy).Contents (Elt F) → (⟨S1x16x16, .f32⟩ : BufTy).Contents (Elt F)),
    StableHlo.reshape main_v1232 main_v1233 rfl shapeCasts_S1x16x16_S16x16 ]

set_option maxRecDepth 16384 in
set_option maxHeartbeats 4000000 in
/-- The window is that line: the called functions unfold at their calls and sequencing re-associates. -/
theorem main_part24_eq (c : Dev nD) : main_part24 (F := F) c = StableHlo.seq ops_part24 := rfl

set_option maxRecDepth 16384 in
set_option maxHeartbeats 4000000 in
/-- Every operation of the window is good; the result's index is compared by computation. -/
theorem ops_part24_good : (ops_part24 : List (HloOp τ sig (Elt F))).Forall (Good 12) :=
  ⟨binary_good (h := by decide) .., nullary_good (h := by decide) .., nullary_good (h := by decide) .., unary_good (h := by decide) ..,
    binary_good (h := by decide) .., unary_good (h := by decide) .., unary_good (h := by decide) .., binary_good (h := by decide) ..,
    ternary_good (h := by decide) .., nullary_good (h := by decide) .., binary_good (h := by decide) .., unary_good (h := by decide) ..,
    binary_good (h := by decide) .., nullary_good (h := by decide) .., binary_good (h := by decide) .., nullary_good (h := by decide) ..,
    binary_good (h := by decide) .., binary_good (h := by decide) .., unary_good (h := by decide) .., binary_good (h := by decide) ..,
    nullary_good (h := by decide) .., binary_good (h := by decide) .., unary_good (h := by decide) .., binary_good (h := by decide) ..,
    nullary_good (h := by decide) .., unary_good (h := by decide) .., binary_good (h := by decide) .., unary_good (h := by decide) ..,
    binary_good (h := by decide) .., nullary_good (h := by decide) .., unary_good (h := by decide) .., unary_good (h := by decide) ..,
    ternary_good (h := by decide) .., nullary_good (h := by decide) .., binary_good (h := by decide) .., nullary_good (h := by decide) ..,
    unary_good (h := by decide) .., binary_good (h := by decide) .., unary_good (h := by decide) .., unary_good (h := by decide) ..,
    binary_good (h := by decide) .., unary_good (h := by decide) .., nullary_good (h := by decide) .., binary_good (h := by decide) ..,
    unary_good (h := by decide) .., unary_good (h := by decide) .., binary_good (h := by decide) .., unary_good (h := by decide) ..,
    binary_good (h := by decide) .., nullary_good (h := by decide) .., unary_good (h := by decide) .., binary_good (h := by decide) ..,
    nullary_good (h := by decide) .., unary_good (h := by decide) .., binary_good (h := by decide) .., nullary_good (h := by decide) ..,
    unary_good (h := by decide) .., unary_good (h := by decide) .., ternary_good (h := by decide) .., unary_good (h := by decide) ..,
    nullary_good (h := by decide) .., unary_good (h := by decide) .., binary_good (h := by decide) .., ternary_good (h := by decide) ..,
    nary_good (h := by decide) .., unary_good (h := by decide) .., reshape_good (h := by decide) .., binary_good (h := by decide) ..,
    unary_good (h := by decide) .., reshape_good (h := by decide) .., binary_good (h := by decide) .., binary_good (h := by decide) ..,
    unary_good (h := by decide) .., unary_good (h := by decide) .., nullary_good (h := by decide) .., unary_good (h := by decide) ..,
    binary_good (h := by decide) .., nullary_good (h := by decide) .., unary_good (h := by decide) .., binary_good (h := by decide) ..,
    unary_good (h := by decide) .., reshape_good (h := by decide) ..⟩

end Cert.ReferenceIdeal.Hand

end
-- ==== Proof.Ref.W25.lean ====
import proofs.«146970_j35948876268088_1_alg».proof.ReferenceIdeal.P05
import proofs.«146970_j35948876268088_1_alg».proof.Proof.Ref.Keep

noncomputable section

namespace Cert.ReferenceIdeal.Hand

open Cert.ReferenceIdeal Idealize.ShloMosaic Idealize.ShloMosaic.TcCoe Idealize.SL.Sem Idealize.ShloMosaic.StableHlo

variable {F : FTy → Type} [FloatOps F]

variable [Facts]
open Facts₀ Facts

set_option maxHeartbeats 4000000 in
/-- The operations of window 25, in order; a called function's operations stand in its call's place. -/
abbrev ops_part25 : List (HloOp τ sig (Elt F)) :=
  [ StableHlo.binary main_v1233 main_v721 main_v1234 ((fun l r => Host.dotGeneral dot_S16x16_S16x8_S16x8_1_0_0_1_n_n none l r) : (⟨S16x16, .f32⟩ : BufTy).Contents (Elt F) → (⟨S16x8, .f32⟩ : BufTy).Contents (Elt F) → (⟨S16x8, .f32⟩ : BufTy).Contents (Elt F)),
    StableHlo.unary main_arg7 main_v1235 ((extractStridedSlice S1x16x16 ![1, 0, 0] · slices_S3x16x16_S1x16x16_1_0_0) : (⟨S3x16x16, .f32⟩ : BufTy).Contents (Elt F) → (⟨S1x16x16, .f32⟩ : BufTy).Contents (Elt F)),
    StableHlo.reshape main_v1235 main_v1236 rfl shapeCasts_S1x16x16_S16x16,
    StableHlo.binary main_v1236 main_v721 main_v1237 ((fun l r => Host.dotGeneral dot_S16x16_S16x8_S16x8_1_0_0_1_n_n none l r) : (⟨S16x16, .f32⟩ : BufTy).Contents (Elt F) → (⟨S16x8, .f32⟩ : BufTy).Contents (Elt F) → (⟨S16x8, .f32⟩ : BufTy).Contents (Elt F)),
    StableHlo.binary main_v1234 main_v1237 main_v1238 (addf : (⟨S16x8, .f32⟩ : BufTy).Contents (Elt F) → (⟨S16x8, .f32⟩ : BufTy).Contents (Elt F) → (⟨S16x8, .f32⟩ : BufTy).Contents (Elt F)),
    StableHlo.unary main_v1238 main_v1239 (Host.negf : (⟨S16x8, .f32⟩ : BufTy).Contents (Elt F) → (⟨S16x8, .f32⟩ : BufTy).Contents (Elt F)),
    StableHlo.unary main_v1239 main_v1240 (Host.exp : (⟨S16x8, .f32⟩ : BufTy).Contents (Elt F) → (⟨S16x8, .f32⟩ : BufTy).Contents (Elt F)),
    StableHlo.nullary main_cst_264 (constant S_ .f32 0x3F800000#32),
    StableHlo.unary main_cst_264 main_v1241 (broadcastInDim S16x8 ![] bcast_S_S16x8 : (⟨S_, .f32⟩ : BufTy).Contents (Elt F) → (⟨S16x8, .f32⟩ : BufTy).Contents (Elt F)),
    StableHlo.binary main_v1241 main_v1240 main_v1242 (addf : (⟨S16x8, .f32⟩ : BufTy).Contents (Elt F) → (⟨S16x8, .f32⟩ : BufTy).Contents (Elt F) → (⟨S16x8, .f32⟩ : BufTy).Contents (Elt F)),
    StableHlo.nullary main_cst_265 (constant S_ .f32 0x3F800000#32),
    StableHlo.unary main_cst_265 main_v1243 (broadcastInDim S16x8 ![] bcast_S_S16x8 : (⟨S_, .f32⟩ : BufTy).Contents (Elt F) → (⟨S16x8, .f32⟩ : BufTy).Contents (Elt F)),
    StableHlo.binary main_v1243 main_v1242 main_v1244 (Host.divf : (⟨S16x8, .f32⟩ : BufTy).Contents (Elt F) → (⟨S16x8, .f32⟩ : BufTy).Contents (Elt F) → (⟨S16x8, .f32⟩ : BufTy).Contents (Elt F)),
    StableHlo.unary main_arg6 main_v1245 ((extractStridedSlice S1x16x16 ![2, 0, 0] · slices_S3x16x16_S1x16x16_2_0_0) : (⟨S3x16x16, .f32⟩ : BufTy).Contents (Elt F) → (⟨S1x16x16, .f32⟩ : BufTy).Contents (Elt F)),
    StableHlo.reshape main_v1245 main_v1246 rfl shapeCasts_S1x16x16_S16x16,
    StableHlo.binary main_v1246 main_v721 main_v1247 ((fun l r => Host.dotGeneral dot_S16x16_S16x8_S16x8_1_0_0_1_n_n none l r) : (⟨S16x16, .f32⟩ : BufTy).Contents (Elt F) → (⟨S16x8, .f32⟩ : BufTy).Contents (Elt F) → (⟨S16x8, .f32⟩ : BufTy).Contents (Elt F)),
    StableHlo.unary main_arg7 main_v1248 ((extractStridedSlice S1x16x16 ![2, 0, 0] · slices_S3x16x16_S1x16x16_2_0_0) : (⟨S3x16x16, .f32⟩ : BufTy).Contents (Elt F) → (⟨S1x16x16, .f32⟩ : BufTy).Contents (Elt F)),
    StableHlo.reshape main_v1248 main_v1249 rfl shapeCasts_S1x16x16_S16x16,
    StableHlo.binary main_v1244 main_v721 main_v1250 (mulf : (⟨S16x8, .f32⟩ : BufTy).Contents (Elt F) → (⟨S16x8, .f32⟩ : BufTy).Contents (Elt F) → (⟨S16x8, .f32⟩ : BufTy).Contents (Elt F)),
    StableHlo.binary main_v1249 main_v1250 main_v1251 ((fun l r => Host.dotGeneral dot_S16x16_S16x8_S16x8_1_0_0_1_n_n none l r) : (⟨S16x16, .f32⟩ : BufTy).Contents (Elt F) → (⟨S16x8, .f32⟩ : BufTy).Contents (Elt F) → (⟨S16x8, .f32⟩ : BufTy).Contents (Elt F)),
    StableHlo.binary main_v1247 main_v1251 main_v1252 (addf : (⟨S16x8, .f32⟩ : BufTy).Contents (Elt F) → (⟨S16x8, .f32⟩ : BufTy).Contents (Elt F) → (⟨S16x8, .f32⟩ : BufTy).Contents (Elt F)),
    StableHlo.unary main_v1252 main_v1253 (Host.tanh : (⟨S16x8, .f32⟩ : BufTy).Contents (Elt F) → (⟨S16x8, .f32⟩ : BufTy).Contents (Elt F)),
    StableHlo.nullary main_cst_266 (constant S_ .f32 0x3F800000#32),
    StableHlo.unary main_cst_266 main_v1254 (broadcastInDim S16x8 ![] bcast_S_S16x8 : (⟨S_, .f32⟩ : BufTy).Contents (Elt F) → (⟨S16x8, .f32⟩ : BufTy).Contents (Elt F)),
    StableHlo.binary main_v1254 main_v1231 main_v1255 (subf : (⟨S16x8, .f32⟩ : BufTy).Contents (Elt F) → (⟨S16x8, .f32⟩ : BufTy).Contents (Elt F) → (⟨S16x8, .f32⟩ : BufTy).Contents (Elt F)),
    StableHlo.binary main_v1255 main_v721 main_v1256 (mulf : (⟨S16x8, .f32⟩ : BufTy).Contents (Elt F) → (⟨S16x8, .f32⟩ : BufTy).Contents (Elt F) → (⟨S16x8, .f32⟩ : BufTy).Contents (Elt F)),
    StableHlo.binary main_v1231 main_v1253 main_v1257 (mulf : (⟨S16x8, .f32⟩ : BufTy).Contents (Elt F) → (⟨S16x8, .f32⟩ : BufTy).Contents (Elt F) → (⟨S16x8, .f32⟩ : BufTy).Contents (Elt F)),
    StableHlo.binary main_v1256 main_v1257 main_v1258 (addf : (⟨S16x8, .f32⟩ : BufTy).Contents (Elt F) → (⟨S16x8, .f32⟩ : BufTy).Contents (Elt F) → (⟨S16x8, .f32⟩ : BufTy).Contents (Elt F)),
    StableHlo.unary main_v1258 main_v1259 ((extractStridedSlice S16x1 ![0, 0] · slices_S16x8_S16x1_0_0) : (⟨S16x8, .f32⟩ : BufTy).Contents (Elt F) → (⟨S16x1, .f32⟩ : BufTy).Contents (Elt F)),
    StableHlo.unary main_v1258 main_v1260 ((extractStridedSlice S16x1 ![0, 4] · slices_S16x8_S16x1_0_4) : (⟨S16x8, .f32⟩ : BufTy).Contents (Elt F) → (⟨S16x1, .f32⟩ : BufTy).Contents (Elt F)),
    StableHlo.unary main_arg4 main_v1261 ((extractStridedSlice S1x256x8 ![0, 0, 0] · slices_S4x256x8_S1x256x8_0_0_0) : (⟨S4x256x8, .f32⟩ : BufTy).Contents (Elt F) → (⟨S1x256x8, .f32⟩ : BufTy).Contents (Elt F)),
    StableHlo.reshape main_v1261 main_v1262 rfl shapeCasts_S1x256x8_S256x8,
    StableHlo.binary main_v144 main_v144 main_v1263 (mulf : (⟨S2048x256, .f32⟩ : BufTy).Contents (Elt F) → (⟨S2048x256, .f32⟩ : BufTy).Contents (Elt F) → (⟨S2048x256, .f32⟩ : BufTy).Contents (Elt F)),
    StableHlo.nullary main_cst_267 (constant S_ .f32 0x00000000#32),
    StableHlo.binary main_v1263 main_cst_267 main_v1264 ((fun x v => Host.reduceAdd x v reducesTo_S2048x256_S2048_d1 h_S_) : (⟨S2048x256, .f32⟩ : BufTy).Contents (Elt F) → (⟨S_, .f32⟩ : BufTy).Contents (Elt F) → (⟨S2048, .f32⟩ : BufTy).Contents (Elt F)),
    StableHlo.unary main_v1264 main_v1265 (Host.sqrt : (⟨S2048, .f32⟩ : BufTy).Contents (Elt F) → (⟨S2048, .f32⟩ : BufTy).Contents (Elt F)),
    StableHlo.unary main_v144 main_v1266 ((transpose S256x2048 [1, 0] · transposes_S2048x256_S256x2048_1_0) : (⟨S2048x256, .f32⟩ : BufTy).Contents (Elt F) → (⟨S256x2048, .f32⟩ : BufTy).Contents (Elt F)),
    StableHlo.binary main_v144 main_v1266 main_v1267 ((fun l r => Host.dotGeneral dot_S2048x256_S256x2048_S2048x2048_1_0_0_1_n_n none l r) : (⟨S2048x256, .f32⟩ : BufTy).Contents (Elt F) → (⟨S256x2048, .f32⟩ : BufTy).Contents (Elt F) → (⟨S2048x2048, .f32⟩ : BufTy).Contents (Elt F)),
    StableHlo.unary main_v1265 main_v1268 (broadcastInDim S2048x1 ![0] bcast_S2048_S2048x1_0 : (⟨S2048, .f32⟩ : BufTy).Contents (Elt F) → (⟨S2048x1, .f32⟩ : BufTy).Contents (Elt F)),
    StableHlo.unary main_v1265 main_v1269 (broadcastInDim S1x2048 ![1] bcast_S2048_S1x2048_1 : (⟨S2048, .f32⟩ : BufTy).Contents (Elt F) → (⟨S1x2048, .f32⟩ : BufTy).Contents (Elt F)),
    StableHlo.unary main_v1268 main_v1270 (broadcastInDim S2048x2048 ![0, 1] bcast_S2048x1_S2048x2048_0_1 : (⟨S2048x1, .f32⟩ : BufTy).Contents (Elt F) → (⟨S2048x2048, .f32⟩ : BufTy).Contents (Elt F)),
    StableHlo.unary main_v1269 main_v1271 (broadcastInDim S2048x2048 ![0, 1] bcast_S1x2048_S2048x2048_0_1 : (⟨S1x2048, .f32⟩ : BufTy).Contents (Elt F) → (⟨S2048x2048, .f32⟩ : BufTy).Contents (Elt F)),
    StableHlo.binary main_v1270 main_v1271 main_v1272 (mulf : (⟨S2048x2048, .f32⟩ : BufTy).Contents (Elt F) → (⟨S2048x2048, .f32⟩ : BufTy).Contents (Elt F) → (⟨S2048x2048, .f32⟩ : BufTy).Contents (Elt F)),
    StableHlo.binary main_v1267 main_v1272 main_v1273 (Host.divf : (⟨S2048x2048, .f32⟩ : BufTy).Contents (Elt F) → (⟨S2048x2048, .f32⟩ : BufTy).Contents (Elt F) → (⟨S2048x2048, .f32⟩ : BufTy).Contents (Elt F)),
    StableHlo.nullary main_v1274 (iotaInDim S2048x2048 32 0),
    StableHlo.nullary main_v1275 (iotaInDim S2048x2048 32 1),
    StableHlo.nullary main_c_268 (constantI S_ 32 0#32),
    StableHlo.unary main_c_268 main_v1276 (broadcastInDim S2048x2048 ![] bcast_S_S2048x2048 : (⟨S_, .i32⟩ : BufTy).Contents (Elt F) → (⟨S2048x2048, .i32⟩ : BufTy).Contents (Elt F)),
    StableHlo.binary main_v1274 main_v1276 main_v1277 (addi : (⟨S2048x2048, .i32⟩ : BufTy).Contents (Elt F) → (⟨S2048x2048, .i32⟩ : BufTy).Contents (Elt F) → (⟨S2048x2048, .i32⟩ : BufTy).Contents (Elt F)),
    StableHlo.binary main_v1277 main_v1275 main_v1278 (cmpi .eq : (⟨S2048x2048, .i32⟩ : BufTy).Contents (Elt F) → (⟨S2048x2048, .i32⟩ : BufTy).Contents (Elt F) → (⟨S2048x2048, .i1⟩ : BufTy).Contents (Elt F)),
    StableHlo.unary main_v1278 main_v1279 (uitofp .f32 : (⟨S2048x2048, .i1⟩ : BufTy).Contents (Elt F) → (⟨S2048x2048, .f32⟩ : BufTy).Contents (Elt F)),
    StableHlo.nullary main_cst_269 (constant S_ .f32 0x3F800000#32),
    StableHlo.unary main_cst_269 main_v1280 (broadcastInDim S2048x2048 ![] bcast_S_S2048x2048 : (⟨S_, .f32⟩ : BufTy).Contents (Elt F) → (⟨S2048x2048, .f32⟩ : BufTy).Contents (Elt F)),
    StableHlo.binary main_v1280 main_v1279 main_v1281 (subf : (⟨S2048x2048, .f32⟩ : BufTy).Contents (Elt F) → (⟨S2048x2048, .f32⟩ : BufTy).Contents (Elt F) → (⟨S2048x2048, .f32⟩ : BufTy).Contents (Elt F)),
    StableHlo.nullary main_cst_270 (constant S_ .f32 0x3F000000#32),
    StableHlo.unary main_cst_270 main_v1282 (broadcastInDim S2048x2048 ![] bcast_S_S2048x2048 : (⟨S_, .f32⟩ : BufTy).Contents (Elt F) → (⟨S2048x2048, .f32⟩ : BufTy).Contents (Elt F)),
    StableHlo.binary main_v1273 main_v1282 main_v1283 (cmpf .ogt : (⟨S2048x2048, .f32⟩ : BufTy).Contents (Elt F) → (⟨S2048x2048, .f32⟩ : BufTy).Contents (Elt F) → (⟨S2048x2048, .i1⟩ : BufTy).Contents (Elt F)),
    StableHlo.nullary main_cst_271 (constant S_ .f32 0x00000000#32),
    StableHlo.TRef.unary (StableHlo.TRef.of (T := ⟨S_, .f32⟩) main_cst_271) main_call56.v0 id,
    StableHlo.TRef.unary main_call56.v0 main_call56.v1 (broadcastInDim S2048x2048 ![] bcast_S_S2048x2048),
    StableHlo.TRef.ternary (StableHlo.TRef.of (T := ⟨S2048x2048, .i1⟩) main_v1283) (StableHlo.TRef.of (T := ⟨S2048x2048, .f32⟩) main_v1273) main_call56.v1 main_call56.v2 select,
    StableHlo.binary main_v1284 main_v1281 main_v1285 (mulf : (⟨S2048x2048, .f32⟩ : BufTy).Contents (Elt F) → (⟨S2048x2048, .f32⟩ : BufTy).Contents (Elt F) → (⟨S2048x2048, .f32⟩ : BufTy).Contents (Elt F)) ]

set_option maxRecDepth 16384 in
set_option maxHeartbeats 4000000 in
/-- The window is that line: the called functions unfold at their calls and sequencing re-associates. -/
theorem main_part25_eq (c : Dev nD) : main_part25 (F := F) c = StableHlo.seq ops_part25 := rfl

set_option maxRecDepth 16384 in
set_option maxHeartbeats 4000000 in
/-- Every operation of the window is good; the result's index is compared by computation. -/
theorem ops_part25_good : (ops_part25 : List (HloOp τ sig (Elt F))).Forall (Good 12) :=
  ⟨binary_good (h := by decide) .., unary_good (h := by decide) .., reshape_good (h := by decide) .., binary_good (h := by decide) ..,
    binary_good (h := by decide) .., unary_good (h := by decide) .., unary_good (h := by decide) .., nullary_good (h := by decide) ..,
    unary_good (h := by decide) .., binary_good (h := by decide) .., nullary_good (h := by decide) .., unary_good (h := by decide) ..,
    binary_good (h := by decide) .., unary_good (h := by decide) .., reshape_good (h := by decide) .., binary_good (h := by decide) ..,
    unary_good (h := by decide) .., reshape_good (h := by decide) .., binary_good (h := by decide) .., binary_good (h := by decide) ..,
    binary_good (h := by decide) .., unary_good (h := by decide) .., nullary_good (h := by decide) .., unary_good (h := by decide) ..,
    binary_good (h := by decide) .., binary_good (h := by decide) .., binary_good (h := by decide) .., binary_good (h := by decide) ..,
    unary_good (h := by decide) .., unary_good (h := by decide) .., unary_good (h := by decide) .., reshape_good (h := by decide) ..,
    binary_good (h := by decide) .., nullary_good (h := by decide) .., binary_good (h := by decide) .., unary_good (h := by decide) ..,
    unary_good (h := by decide) .., binary_good (h := by decide) .., unary_good (h := by decide) .., unary_good (h := by decide) ..,
    unary_good (h := by decide) .., unary_good (h := by decide) .., binary_good (h := by decide) .., binary_good (h := by decide) ..,
    nullary_good (h := by decide) .., nullary_good (h := by decide) .., nullary_good (h := by decide) .., unary_good (h := by decide) ..,
    binary_good (h := by decide) .., binary_good (h := by decide) .., unary_good (h := by decide) .., nullary_good (h := by decide) ..,
    unary_good (h := by decide) .., binary_good (h := by decide) .., nullary_good (h := by decide) .., unary_good (h := by decide) ..,
    binary_good (h := by decide) .., nullary_good (h := by decide) .., unary_good (h := by decide) .., unary_good (h := by decide) ..,
    ternary_good (h := by decide) .., binary_good (h := by decide) ..⟩

end Cert.ReferenceIdeal.Hand

end
-- ==== Proof.Ref.W26.lean ====
import proofs.«146970_j35948876268088_1_alg».proof.ReferenceIdeal.P05
import proofs.«146970_j35948876268088_1_alg».proof.Proof.Ref.Keep

noncomputable section

namespace Cert.ReferenceIdeal.Hand

open Cert.ReferenceIdeal Idealize.ShloMosaic Idealize.ShloMosaic.TcCoe Idealize.SL.Sem Idealize.ShloMosaic.StableHlo

variable {F : FTy → Type} [FloatOps F]

variable [Facts]
open Facts₀ Facts

set_option maxHeartbeats 4000000 in
/-- The operations of window 26, in order; a called function's operations stand in its call's place. -/
abbrev ops_part26 : List (HloOp τ sig (Elt F)) :=
  [ StableHlo.unary main_v122 main_v1286 ((transpose S2048x2048 [1, 0] · transposes_S2048x2048_S2048x2048_1_0) : (⟨S2048x2048, .f32⟩ : BufTy).Contents (Elt F) → (⟨S2048x2048, .f32⟩ : BufTy).Contents (Elt F)),
    StableHlo.binary main_v122 main_v1286 main_v1287 ((fun l r => Host.dotGeneral dot_S2048x2048_S2048x2048_S2048x2048_1_0_0_1_n_n none l r) : (⟨S2048x2048, .f32⟩ : BufTy).Contents (Elt F) → (⟨S2048x2048, .f32⟩ : BufTy).Contents (Elt F) → (⟨S2048x2048, .f32⟩ : BufTy).Contents (Elt F)),
    StableHlo.nullary main_cst_272 (constant S_ .f32 0x00000000#32),
    StableHlo.unary main_cst_272 main_v1288 (broadcastInDim S2048x2048 ![] bcast_S_S2048x2048 : (⟨S_, .f32⟩ : BufTy).Contents (Elt F) → (⟨S2048x2048, .f32⟩ : BufTy).Contents (Elt F)),
    StableHlo.binary main_v1287 main_v1288 main_v1289 (cmpf .ogt : (⟨S2048x2048, .f32⟩ : BufTy).Contents (Elt F) → (⟨S2048x2048, .f32⟩ : BufTy).Contents (Elt F) → (⟨S2048x2048, .i1⟩ : BufTy).Contents (Elt F)),
    StableHlo.unary main_v1289 main_v1290 (uitofp .f32 : (⟨S2048x2048, .i1⟩ : BufTy).Contents (Elt F) → (⟨S2048x2048, .f32⟩ : BufTy).Contents (Elt F)),
    StableHlo.binary main_v1290 main_v1281 main_v1291 (mulf : (⟨S2048x2048, .f32⟩ : BufTy).Contents (Elt F) → (⟨S2048x2048, .f32⟩ : BufTy).Contents (Elt F) → (⟨S2048x2048, .f32⟩ : BufTy).Contents (Elt F)),
    StableHlo.binary main_v1285 main_v1291 main_v1292 (mulf : (⟨S2048x2048, .f32⟩ : BufTy).Contents (Elt F) → (⟨S2048x2048, .f32⟩ : BufTy).Contents (Elt F) → (⟨S2048x2048, .f32⟩ : BufTy).Contents (Elt F)),
    StableHlo.nullary main_cst_273 (constant S_ .f32 0x00000000#32),
    StableHlo.binary main_v1292 main_cst_273 main_v1293 ((fun x v => Host.reduceAdd x v reducesTo_S2048x2048_S2048_d1 h_S_) : (⟨S2048x2048, .f32⟩ : BufTy).Contents (Elt F) → (⟨S_, .f32⟩ : BufTy).Contents (Elt F) → (⟨S2048, .f32⟩ : BufTy).Contents (Elt F)),
    StableHlo.unary main_v1293 main_v1294 (broadcastInDim S2048x1 ![0] bcast_S2048_S2048x1_0 : (⟨S2048, .f32⟩ : BufTy).Contents (Elt F) → (⟨S2048x1, .f32⟩ : BufTy).Contents (Elt F)),
    StableHlo.unary main_v1294 main_v1295 (broadcastInDim S2048x2048 ![0, 1] bcast_S2048x1_S2048x2048_0_1 : (⟨S2048x1, .f32⟩ : BufTy).Contents (Elt F) → (⟨S2048x2048, .f32⟩ : BufTy).Contents (Elt F)),
    StableHlo.binary main_v122 main_v1295 main_v1296 (mulf : (⟨S2048x2048, .f32⟩ : BufTy).Contents (Elt F) → (⟨S2048x2048, .f32⟩ : BufTy).Contents (Elt F) → (⟨S2048x2048, .f32⟩ : BufTy).Contents (Elt F)),
    StableHlo.nullary main_cst_274 (constant S_ .f32 0x00000000#32),
    StableHlo.binary main_v1296 main_cst_274 main_v1297 ((fun x v => Host.reduceAdd x v reducesTo_S2048x2048_S2048_d0 h_S_) : (⟨S2048x2048, .f32⟩ : BufTy).Contents (Elt F) → (⟨S_, .f32⟩ : BufTy).Contents (Elt F) → (⟨S2048, .f32⟩ : BufTy).Contents (Elt F)),
    StableHlo.unary main_v1297 main_v1298 (broadcastInDim S2048x1 ![0] bcast_S2048_S2048x1_0 : (⟨S2048, .f32⟩ : BufTy).Contents (Elt F) → (⟨S2048x1, .f32⟩ : BufTy).Contents (Elt F)),
    StableHlo.binary main_v144 main_v1262 main_v1299 ((fun l r => Host.dotGeneral dot_S2048x256_S256x8_S2048x8_1_0_0_1_n_n none l r) : (⟨S2048x256, .f32⟩ : BufTy).Contents (Elt F) → (⟨S256x8, .f32⟩ : BufTy).Contents (Elt F) → (⟨S2048x8, .f32⟩ : BufTy).Contents (Elt F)),
    StableHlo.binary main_v144 main_v1262 main_v1300 ((fun l r => Host.dotGeneral dot_S2048x256_S256x8_S2048x8_1_0_0_1_n_n none l r) : (⟨S2048x256, .f32⟩ : BufTy).Contents (Elt F) → (⟨S256x8, .f32⟩ : BufTy).Contents (Elt F) → (⟨S2048x8, .f32⟩ : BufTy).Contents (Elt F)),
    StableHlo.binary main_v137 main_v1262 main_v1301 ((fun l r => Host.dotGeneral dot_S2048x256_S256x8_S2048x8_1_0_0_1_n_n none l r) : (⟨S2048x256, .f32⟩ : BufTy).Contents (Elt F) → (⟨S256x8, .f32⟩ : BufTy).Contents (Elt F) → (⟨S2048x8, .f32⟩ : BufTy).Contents (Elt F)),
    StableHlo.unary main_v1259 main_v1302 ((extractStridedSlice S8x1 ![0, 0] · slices_S16x1_S8x1_0_0) : (⟨S16x1, .f32⟩ : BufTy).Contents (Elt F) → (⟨S8x1, .f32⟩ : BufTy).Contents (Elt F)),
    StableHlo.binary main_v1300 main_v1302 main_v1303 ((fun l r => Host.dotGeneral dot_S2048x8_S8x1_S2048x1_1_0_0_1_n_n none l r) : (⟨S2048x8, .f32⟩ : BufTy).Contents (Elt F) → (⟨S8x1, .f32⟩ : BufTy).Contents (Elt F) → (⟨S2048x1, .f32⟩ : BufTy).Contents (Elt F)),
    StableHlo.unary main_v1259 main_v1304 ((extractStridedSlice S8x1 ![8, 0] · slices_S16x1_S8x1_8_0) : (⟨S16x1, .f32⟩ : BufTy).Contents (Elt F) → (⟨S8x1, .f32⟩ : BufTy).Contents (Elt F)),
    StableHlo.binary main_v1301 main_v1304 main_v1305 ((fun l r => Host.dotGeneral dot_S2048x8_S8x1_S2048x1_1_0_0_1_n_n none l r) : (⟨S2048x8, .f32⟩ : BufTy).Contents (Elt F) → (⟨S8x1, .f32⟩ : BufTy).Contents (Elt F) → (⟨S2048x1, .f32⟩ : BufTy).Contents (Elt F)),
    StableHlo.unary main_v1305 main_v1306 ((transpose S1x2048 [1, 0] · transposes_S2048x1_S1x2048_1_0) : (⟨S2048x1, .f32⟩ : BufTy).Contents (Elt F) → (⟨S1x2048, .f32⟩ : BufTy).Contents (Elt F)),
    StableHlo.unary main_v1303 main_v1307 (broadcastInDim S2048x2048 ![0, 1] bcast_S2048x1_S2048x2048_0_1 : (⟨S2048x1, .f32⟩ : BufTy).Contents (Elt F) → (⟨S2048x2048, .f32⟩ : BufTy).Contents (Elt F)),
    StableHlo.unary main_v1306 main_v1308 (broadcastInDim S2048x2048 ![0, 1] bcast_S1x2048_S2048x2048_0_1 : (⟨S1x2048, .f32⟩ : BufTy).Contents (Elt F) → (⟨S2048x2048, .f32⟩ : BufTy).Contents (Elt F)),
    StableHlo.binary main_v1307 main_v1308 main_v1309 (addf : (⟨S2048x2048, .f32⟩ : BufTy).Contents (Elt F) → (⟨S2048x2048, .f32⟩ : BufTy).Contents (Elt F) → (⟨S2048x2048, .f32⟩ : BufTy).Contents (Elt F)),
    StableHlo.nullary main_cst_275 (constant S_ .f32 0x3E4CCCCD#32),
    StableHlo.TRef.nullary main_call57.cst (constant S_ .f32 0x00000000#32),
    StableHlo.TRef.unary main_call57.cst main_call57.v0 (broadcastInDim S2048x2048 ![] bcast_S_S2048x2048),
    StableHlo.TRef.binary (StableHlo.TRef.of (T := ⟨S2048x2048, .f32⟩) main_v1309) main_call57.v0 main_call57.v1 (cmpf .oge),
    StableHlo.TRef.unary (StableHlo.TRef.of (T := ⟨S_, .f32⟩) main_cst_275) main_call57.v2 id,
    StableHlo.TRef.unary main_call57.v2 main_call57.v3 (broadcastInDim S2048x2048 ![] bcast_S_S2048x2048),
    StableHlo.TRef.binary main_call57.v3 (StableHlo.TRef.of (T := ⟨S2048x2048, .f32⟩) main_v1309) main_call57.v4 mulf,
    StableHlo.TRef.ternary main_call57.v1 (StableHlo.TRef.of (T := ⟨S2048x2048, .f32⟩) main_v1309) main_call57.v4 main_call57.call0.v0 select,
    StableHlo.nullary main_cst_276 (constant S_ .f32 0x7F800000#32),
    StableHlo.binary main_v1294 main_cst_276 main_v1311 ((fun x v => Host.reduce FloatOps.minimumf x v reducesTo_S2048x1_S_d0_1 h_S_) : (⟨S2048x1, .f32⟩ : BufTy).Contents (Elt F) → (⟨S_, .f32⟩ : BufTy).Contents (Elt F) → (⟨S_, .f32⟩ : BufTy).Contents (Elt F)),
    StableHlo.unary main_v1311 main_v1312 (broadcastInDim S2048x1 ![] bcast_S_S2048x1 : (⟨S_, .f32⟩ : BufTy).Contents (Elt F) → (⟨S2048x1, .f32⟩ : BufTy).Contents (Elt F)),
    StableHlo.binary main_v1294 main_v1312 main_v1313 (subf : (⟨S2048x1, .f32⟩ : BufTy).Contents (Elt F) → (⟨S2048x1, .f32⟩ : BufTy).Contents (Elt F) → (⟨S2048x1, .f32⟩ : BufTy).Contents (Elt F)),
    StableHlo.nullary main_cst_277 (constant S_ .f32 0xFF800000#32),
    StableHlo.binary main_v1294 main_cst_277 main_v1314 ((fun x v => Host.reduce FloatOps.maximumf x v reducesTo_S2048x1_S_d0_1 h_S_) : (⟨S2048x1, .f32⟩ : BufTy).Contents (Elt F) → (⟨S_, .f32⟩ : BufTy).Contents (Elt F) → (⟨S_, .f32⟩ : BufTy).Contents (Elt F)),
    StableHlo.nullary main_cst_278 (constant S_ .f32 0x7F800000#32),
    StableHlo.binary main_v1294 main_cst_278 main_v1315 ((fun x v => Host.reduce FloatOps.minimumf x v reducesTo_S2048x1_S_d0_1 h_S_) : (⟨S2048x1, .f32⟩ : BufTy).Contents (Elt F) → (⟨S_, .f32⟩ : BufTy).Contents (Elt F) → (⟨S_, .f32⟩ : BufTy).Contents (Elt F)),
    StableHlo.binary main_v1314 main_v1315 main_v1316 (subf : (⟨S_, .f32⟩ : BufTy).Contents (Elt F) → (⟨S_, .f32⟩ : BufTy).Contents (Elt F) → (⟨S_, .f32⟩ : BufTy).Contents (Elt F)),
    StableHlo.unary main_v1316 main_v1317 (broadcastInDim S2048x1 ![] bcast_S_S2048x1 : (⟨S_, .f32⟩ : BufTy).Contents (Elt F) → (⟨S2048x1, .f32⟩ : BufTy).Contents (Elt F)),
    StableHlo.binary main_v1313 main_v1317 main_v1318 (Host.divf : (⟨S2048x1, .f32⟩ : BufTy).Contents (Elt F) → (⟨S2048x1, .f32⟩ : BufTy).Contents (Elt F) → (⟨S2048x1, .f32⟩ : BufTy).Contents (Elt F)),
    StableHlo.nullary main_cst_279 (constant S_ .f32 0xFF800000#32),
    StableHlo.binary main_v1310 main_cst_279 main_v1319 ((fun x v => Host.reduce FloatOps.maximumf x v reducesTo_S2048x2048_S_d0_1 h_S_) : (⟨S2048x2048, .f32⟩ : BufTy).Contents (Elt F) → (⟨S_, .f32⟩ : BufTy).Contents (Elt F) → (⟨S_, .f32⟩ : BufTy).Contents (Elt F)),
    StableHlo.unary main_v1319 main_v1320 (broadcastInDim S2048x1 ![] bcast_S_S2048x1 : (⟨S_, .f32⟩ : BufTy).Contents (Elt F) → (⟨S2048x1, .f32⟩ : BufTy).Contents (Elt F)),
    StableHlo.binary main_v1318 main_v1320 main_v1321 (mulf : (⟨S2048x1, .f32⟩ : BufTy).Contents (Elt F) → (⟨S2048x1, .f32⟩ : BufTy).Contents (Elt F) → (⟨S2048x1, .f32⟩ : BufTy).Contents (Elt F)),
    StableHlo.nullary main_cst_280 (constant S_ .f32 0x00000000#32),
    StableHlo.unary main_cst_280 main_v1322 (broadcastInDim S2048x2048 ![] bcast_S_S2048x2048 : (⟨S_, .f32⟩ : BufTy).Contents (Elt F) → (⟨S2048x2048, .f32⟩ : BufTy).Contents (Elt F)),
    StableHlo.binary main_v122 main_v1322 main_v1323 (cmpf .ogt : (⟨S2048x2048, .f32⟩ : BufTy).Contents (Elt F) → (⟨S2048x2048, .f32⟩ : BufTy).Contents (Elt F) → (⟨S2048x2048, .i1⟩ : BufTy).Contents (Elt F)),
    StableHlo.unary main_v1321 main_v1324 (broadcastInDim S2048x2048 ![0, 1] bcast_S2048x1_S2048x2048_0_1 : (⟨S2048x1, .f32⟩ : BufTy).Contents (Elt F) → (⟨S2048x2048, .f32⟩ : BufTy).Contents (Elt F)),
    StableHlo.binary main_v1310 main_v1324 main_v1325 (addf : (⟨S2048x2048, .f32⟩ : BufTy).Contents (Elt F) → (⟨S2048x2048, .f32⟩ : BufTy).Contents (Elt F) → (⟨S2048x2048, .f32⟩ : BufTy).Contents (Elt F)),
    StableHlo.nullary main_cst_281 (constant S_ .f32 0xD368D4A5#32),
    StableHlo.TRef.unary (StableHlo.TRef.of (T := ⟨S_, .f32⟩) main_cst_281) main_call58.v0 id,
    StableHlo.TRef.unary main_call58.v0 main_call58.v1 (broadcastInDim S2048x2048 ![] bcast_S_S2048x2048),
    StableHlo.TRef.ternary (StableHlo.TRef.of (T := ⟨S2048x2048, .i1⟩) main_v1323) (StableHlo.TRef.of (T := ⟨S2048x2048, .f32⟩) main_v1325) main_call58.v1 main_call58.v2 select,
    StableHlo.nullary main_cst_282 (constant S_ .f32 0xFF800000#32),
    StableHlo.binary main_v1326 main_cst_282 main_v1327 ((fun x v => Host.reduce FloatOps.maximumf x v reducesTo_S2048x2048_S2048_d1 h_S_) : (⟨S2048x2048, .f32⟩ : BufTy).Contents (Elt F) → (⟨S_, .f32⟩ : BufTy).Contents (Elt F) → (⟨S2048, .f32⟩ : BufTy).Contents (Elt F)),
    StableHlo.nullary main_cst_283 (constant S_ .f32 0xFF800000#32),
    StableHlo.unary main_cst_283 main_v1328 (broadcastInDim S2048 ![] bcast_S_S2048 : (⟨S_, .f32⟩ : BufTy).Contents (Elt F) → (⟨S2048, .f32⟩ : BufTy).Contents (Elt F)),
    StableHlo.binary main_v1328 main_v1327 main_v1329 (maximumf : (⟨S2048, .f32⟩ : BufTy).Contents (Elt F) → (⟨S2048, .f32⟩ : BufTy).Contents (Elt F) → (⟨S2048, .f32⟩ : BufTy).Contents (Elt F)),
    StableHlo.unary main_v1329 main_v1330 (broadcastInDim S2048x1 ![0] bcast_S2048_S2048x1_0 : (⟨S2048, .f32⟩ : BufTy).Contents (Elt F) → (⟨S2048x1, .f32⟩ : BufTy).Contents (Elt F)),
    StableHlo.unary main_v1330 main_v1331 (broadcastInDim S2048x2048 ![0, 1] bcast_S2048x1_S2048x2048_0_1 : (⟨S2048x1, .f32⟩ : BufTy).Contents (Elt F) → (⟨S2048x2048, .f32⟩ : BufTy).Contents (Elt F)),
    StableHlo.binary main_v1326 main_v1331 main_v1332 (subf : (⟨S2048x2048, .f32⟩ : BufTy).Contents (Elt F) → (⟨S2048x2048, .f32⟩ : BufTy).Contents (Elt F) → (⟨S2048x2048, .f32⟩ : BufTy).Contents (Elt F)),
    StableHlo.unary main_v1332 main_v1333 (Host.exp : (⟨S2048x2048, .f32⟩ : BufTy).Contents (Elt F) → (⟨S2048x2048, .f32⟩ : BufTy).Contents (Elt F)) ]

set_option maxRecDepth 16384 in
set_option maxHeartbeats 4000000 in
/-- The window is that line: the called functions unfold at their calls and sequencing re-associates. -/
theorem main_part26_eq (c : Dev nD) : main_part26 (F := F) c = StableHlo.seq ops_part26 := rfl

set_option maxRecDepth 16384 in
set_option maxHeartbeats 4000000 in
/-- Every operation of the window is good; the result's index is compared by computation. -/
theorem ops_part26_good : (ops_part26 : List (HloOp τ sig (Elt F))).Forall (Good 12) :=
  ⟨unary_good (h := by decide) .., binary_good (h := by decide) .., nullary_good (h := by decide) .., unary_good (h := by decide) ..,
    binary_good (h := by decide) .., unary_good (h := by decide) .., binary_good (h := by decide) .., binary_good (h := by decide) ..,
    nullary_good (h := by decide) .., binary_good (h := by decide) .., unary_good (h := by decide) .., unary_good (h := by decide) ..,
    binary_good (h := by decide) .., nullary_good (h := by decide) .., binary_good (h := by decide) .., unary_good (h := by decide) ..,
    binary_good (h := by decide) .., binary_good (h := by decide) .., binary_good (h := by decide) .., unary_good (h := by decide) ..,
    binary_good (h := by decide) .., unary_good (h := by decide) .., binary_good (h := by decide) .., unary_good (h := by decide) ..,
    unary_good (h := by decide) .., unary_good (h := by decide) .., binary_good (h := by decide) .., nullary_good (h := by decide) ..,
    nullary_good (h := by decide) .., unary_good (h := by decide) .., binary_good (h := by decide) .., unary_good (h := by decide) ..,
    unary_good (h := by decide) .., binary_good (h := by decide) .., ternary_good (h := by decide) .., nullary_good (h := by decide) ..,
    binary_good (h := by decide) .., unary_good (h := by decide) .., binary_good (h := by decide) .., nullary_good (h := by decide) ..,
    binary_good (h := by decide) .., nullary_good (h := by decide) .., binary_good (h := by decide) .., binary_good (h := by decide) ..,
    unary_good (h := by decide) .., binary_good (h := by decide) .., nullary_good (h := by decide) .., binary_good (h := by decide) ..,
    unary_good (h := by decide) .., binary_good (h := by decide) .., nullary_good (h := by decide) .., unary_good (h := by decide) ..,
    binary_good (h := by decide) .., unary_good (h := by decide) .., binary_good (h := by decide) .., nullary_good (h := by decide) ..,
    unary_good (h := by decide) .., unary_good (h := by decide) .., ternary_good (h := by decide) .., nullary_good (h := by decide) ..,
    binary_good (h := by decide) .., nullary_good (h := by decide) .., unary_good (h := by decide) .., binary_good (h := by decide) ..,
    unary_good (h := by decide) .., unary_good (h := by decide) .., binary_good (h := by decide) .., unary_good (h := by decide) ..⟩

end Cert.ReferenceIdeal.Hand

end
-- ==== Proof.Ref.W27.lean ====
import proofs.«146970_j35948876268088_1_alg».proof.ReferenceIdeal.P05
import proofs.«146970_j35948876268088_1_alg».proof.Proof.Ref.Keep

noncomputable section

namespace Cert.ReferenceIdeal.Hand

open Cert.ReferenceIdeal Idealize.ShloMosaic Idealize.ShloMosaic.TcCoe Idealize.SL.Sem Idealize.ShloMosaic.StableHlo

variable {F : FTy → Type} [FloatOps F]

variable [Facts]
open Facts₀ Facts

set_option maxHeartbeats 4000000 in
/-- The operations of window 27, in order; a called function's operations stand in its call's place. -/
abbrev ops_part27 : List (HloOp τ sig (Elt F)) :=
  [ StableHlo.nullary main_cst_284 (constant S_ .f32 0x00000000#32),
    StableHlo.binary main_v1333 main_cst_284 main_v1334 ((fun x v => Host.reduceAdd x v reducesTo_S2048x2048_S2048_d1 h_S_) : (⟨S2048x2048, .f32⟩ : BufTy).Contents (Elt F) → (⟨S_, .f32⟩ : BufTy).Contents (Elt F) → (⟨S2048, .f32⟩ : BufTy).Contents (Elt F)),
    StableHlo.unary main_v1334 main_v1335 (broadcastInDim S2048x1 ![0] bcast_S2048_S2048x1_0 : (⟨S2048, .f32⟩ : BufTy).Contents (Elt F) → (⟨S2048x1, .f32⟩ : BufTy).Contents (Elt F)),
    StableHlo.unary main_v1335 main_v1336 (broadcastInDim S2048x2048 ![0, 1] bcast_S2048x1_S2048x2048_0_1 : (⟨S2048x1, .f32⟩ : BufTy).Contents (Elt F) → (⟨S2048x2048, .f32⟩ : BufTy).Contents (Elt F)),
    StableHlo.binary main_v1333 main_v1336 main_v1337 (Host.divf : (⟨S2048x2048, .f32⟩ : BufTy).Contents (Elt F) → (⟨S2048x2048, .f32⟩ : BufTy).Contents (Elt F) → (⟨S2048x2048, .f32⟩ : BufTy).Contents (Elt F)),
    StableHlo.unary main_v1337 main_v1338 ((transpose S2048x2048 [1, 0] · transposes_S2048x2048_S2048x2048_1_0) : (⟨S2048x2048, .f32⟩ : BufTy).Contents (Elt F) → (⟨S2048x2048, .f32⟩ : BufTy).Contents (Elt F)),
    StableHlo.binary main_v1338 main_v1299 main_v1339 ((fun l r => Host.dotGeneral dot_S2048x2048_S2048x8_S2048x8_1_0_0_1_n_n none l r) : (⟨S2048x2048, .f32⟩ : BufTy).Contents (Elt F) → (⟨S2048x8, .f32⟩ : BufTy).Contents (Elt F) → (⟨S2048x8, .f32⟩ : BufTy).Contents (Elt F)),
    StableHlo.TRef.nullary main_call59.cst (constant S_ .f32 0x00000000#32),
    StableHlo.TRef.unary main_call59.cst main_call59.v0 (broadcastInDim S2048x8 ![] bcast_S_S2048x8),
    StableHlo.TRef.binary (StableHlo.TRef.of (T := ⟨S2048x8, .f32⟩) main_v1339) main_call59.v0 main_call59.v1 (cmpf .ogt),
    StableHlo.TRef.nullary main_call59.cst_0 (constant S_ .f32 0x00000000#32),
    StableHlo.TRef.unary main_call59.cst_0 main_call59.v2 (broadcastInDim S2048x8 ![] bcast_S_S2048x8),
    StableHlo.TRef.binary (StableHlo.TRef.of (T := ⟨S2048x8, .f32⟩) main_v1339) main_call59.v2 main_call59.v3 (cmpf .ogt),
    StableHlo.TRef.nullary main_call59.cst_1 (constant S_ .f32 0x00000000#32),
    StableHlo.TRef.unary main_call59.cst_1 main_call59.call0.v0 id,
    StableHlo.TRef.unary main_call59.call0.v0 main_call59.call0.v1 (broadcastInDim S2048x8 ![] bcast_S_S2048x8),
    StableHlo.TRef.ternary main_call59.v3 main_call59.call0.v1 (StableHlo.TRef.of (T := ⟨S2048x8, .f32⟩) main_v1339) main_call59.call0.v2 select,
    StableHlo.TRef.unary main_call59.call0.v2 main_call59.v5 Host.expm1,
    StableHlo.TRef.nullary main_call59.cst_2 (constant S_ .f32 0x3F800000#32),
    StableHlo.TRef.unary main_call59.cst_2 main_call59.v6 (broadcastInDim S2048x8 ![] bcast_S_S2048x8),
    StableHlo.TRef.binary main_call59.v6 main_call59.v5 main_call59.v7 mulf,
    StableHlo.TRef.ternary main_call59.v1 (StableHlo.TRef.of (T := ⟨S2048x8, .f32⟩) main_v1339) main_call59.v7 main_call59.call1.v0 select,
    StableHlo.unary main_v122 main_v1341 ((transpose S2048x2048 [1, 0] · transposes_S2048x2048_S2048x2048_1_0) : (⟨S2048x2048, .f32⟩ : BufTy).Contents (Elt F) → (⟨S2048x2048, .f32⟩ : BufTy).Contents (Elt F)),
    StableHlo.binary main_v137 main_v1262 main_v1342 ((fun l r => Host.dotGeneral dot_S2048x256_S256x8_S2048x8_1_0_0_1_n_n none l r) : (⟨S2048x256, .f32⟩ : BufTy).Contents (Elt F) → (⟨S256x8, .f32⟩ : BufTy).Contents (Elt F) → (⟨S2048x8, .f32⟩ : BufTy).Contents (Elt F)),
    StableHlo.binary main_v144 main_v1262 main_v1343 ((fun l r => Host.dotGeneral dot_S2048x256_S256x8_S2048x8_1_0_0_1_n_n none l r) : (⟨S2048x256, .f32⟩ : BufTy).Contents (Elt F) → (⟨S256x8, .f32⟩ : BufTy).Contents (Elt F) → (⟨S2048x8, .f32⟩ : BufTy).Contents (Elt F)),
    StableHlo.unary main_v1260 main_v1344 ((extractStridedSlice S8x1 ![0, 0] · slices_S16x1_S8x1_0_0) : (⟨S16x1, .f32⟩ : BufTy).Contents (Elt F) → (⟨S8x1, .f32⟩ : BufTy).Contents (Elt F)),
    StableHlo.binary main_v1342 main_v1344 main_v1345 ((fun l r => Host.dotGeneral dot_S2048x8_S8x1_S2048x1_1_0_0_1_n_n none l r) : (⟨S2048x8, .f32⟩ : BufTy).Contents (Elt F) → (⟨S8x1, .f32⟩ : BufTy).Contents (Elt F) → (⟨S2048x1, .f32⟩ : BufTy).Contents (Elt F)),
    StableHlo.unary main_v1260 main_v1346 ((extractStridedSlice S8x1 ![8, 0] · slices_S16x1_S8x1_8_0) : (⟨S16x1, .f32⟩ : BufTy).Contents (Elt F) → (⟨S8x1, .f32⟩ : BufTy).Contents (Elt F)),
    StableHlo.binary main_v1343 main_v1346 main_v1347 ((fun l r => Host.dotGeneral dot_S2048x8_S8x1_S2048x1_1_0_0_1_n_n none l r) : (⟨S2048x8, .f32⟩ : BufTy).Contents (Elt F) → (⟨S8x1, .f32⟩ : BufTy).Contents (Elt F) → (⟨S2048x1, .f32⟩ : BufTy).Contents (Elt F)),
    StableHlo.unary main_v1347 main_v1348 ((transpose S1x2048 [1, 0] · transposes_S2048x1_S1x2048_1_0) : (⟨S2048x1, .f32⟩ : BufTy).Contents (Elt F) → (⟨S1x2048, .f32⟩ : BufTy).Contents (Elt F)),
    StableHlo.unary main_v1345 main_v1349 (broadcastInDim S2048x2048 ![0, 1] bcast_S2048x1_S2048x2048_0_1 : (⟨S2048x1, .f32⟩ : BufTy).Contents (Elt F) → (⟨S2048x2048, .f32⟩ : BufTy).Contents (Elt F)),
    StableHlo.unary main_v1348 main_v1350 (broadcastInDim S2048x2048 ![0, 1] bcast_S1x2048_S2048x2048_0_1 : (⟨S1x2048, .f32⟩ : BufTy).Contents (Elt F) → (⟨S2048x2048, .f32⟩ : BufTy).Contents (Elt F)),
    StableHlo.binary main_v1349 main_v1350 main_v1351 (addf : (⟨S2048x2048, .f32⟩ : BufTy).Contents (Elt F) → (⟨S2048x2048, .f32⟩ : BufTy).Contents (Elt F) → (⟨S2048x2048, .f32⟩ : BufTy).Contents (Elt F)),
    StableHlo.nullary main_cst_285 (constant S_ .f32 0x3E4CCCCD#32),
    StableHlo.TRef.nullary main_call60.cst (constant S_ .f32 0x00000000#32),
    StableHlo.TRef.unary main_call60.cst main_call60.v0 (broadcastInDim S2048x2048 ![] bcast_S_S2048x2048),
    StableHlo.TRef.binary (StableHlo.TRef.of (T := ⟨S2048x2048, .f32⟩) main_v1351) main_call60.v0 main_call60.v1 (cmpf .oge),
    StableHlo.TRef.unary (StableHlo.TRef.of (T := ⟨S_, .f32⟩) main_cst_285) main_call60.v2 id,
    StableHlo.TRef.unary main_call60.v2 main_call60.v3 (broadcastInDim S2048x2048 ![] bcast_S_S2048x2048),
    StableHlo.TRef.binary main_call60.v3 (StableHlo.TRef.of (T := ⟨S2048x2048, .f32⟩) main_v1351) main_call60.v4 mulf,
    StableHlo.TRef.ternary main_call60.v1 (StableHlo.TRef.of (T := ⟨S2048x2048, .f32⟩) main_v1351) main_call60.v4 main_call60.call0.v0 select,
    StableHlo.nullary main_cst_286 (constant S_ .f32 0x7F800000#32),
    StableHlo.binary main_v1298 main_cst_286 main_v1353 ((fun x v => Host.reduce FloatOps.minimumf x v reducesTo_S2048x1_S_d0_1 h_S_) : (⟨S2048x1, .f32⟩ : BufTy).Contents (Elt F) → (⟨S_, .f32⟩ : BufTy).Contents (Elt F) → (⟨S_, .f32⟩ : BufTy).Contents (Elt F)),
    StableHlo.unary main_v1353 main_v1354 (broadcastInDim S2048x1 ![] bcast_S_S2048x1 : (⟨S_, .f32⟩ : BufTy).Contents (Elt F) → (⟨S2048x1, .f32⟩ : BufTy).Contents (Elt F)),
    StableHlo.binary main_v1298 main_v1354 main_v1355 (subf : (⟨S2048x1, .f32⟩ : BufTy).Contents (Elt F) → (⟨S2048x1, .f32⟩ : BufTy).Contents (Elt F) → (⟨S2048x1, .f32⟩ : BufTy).Contents (Elt F)),
    StableHlo.nullary main_cst_287 (constant S_ .f32 0xFF800000#32),
    StableHlo.binary main_v1298 main_cst_287 main_v1356 ((fun x v => Host.reduce FloatOps.maximumf x v reducesTo_S2048x1_S_d0_1 h_S_) : (⟨S2048x1, .f32⟩ : BufTy).Contents (Elt F) → (⟨S_, .f32⟩ : BufTy).Contents (Elt F) → (⟨S_, .f32⟩ : BufTy).Contents (Elt F)),
    StableHlo.nullary main_cst_288 (constant S_ .f32 0x7F800000#32),
    StableHlo.binary main_v1298 main_cst_288 main_v1357 ((fun x v => Host.reduce FloatOps.minimumf x v reducesTo_S2048x1_S_d0_1 h_S_) : (⟨S2048x1, .f32⟩ : BufTy).Contents (Elt F) → (⟨S_, .f32⟩ : BufTy).Contents (Elt F) → (⟨S_, .f32⟩ : BufTy).Contents (Elt F)),
    StableHlo.binary main_v1356 main_v1357 main_v1358 (subf : (⟨S_, .f32⟩ : BufTy).Contents (Elt F) → (⟨S_, .f32⟩ : BufTy).Contents (Elt F) → (⟨S_, .f32⟩ : BufTy).Contents (Elt F)),
    StableHlo.unary main_v1358 main_v1359 (broadcastInDim S2048x1 ![] bcast_S_S2048x1 : (⟨S_, .f32⟩ : BufTy).Contents (Elt F) → (⟨S2048x1, .f32⟩ : BufTy).Contents (Elt F)),
    StableHlo.binary main_v1355 main_v1359 main_v1360 (Host.divf : (⟨S2048x1, .f32⟩ : BufTy).Contents (Elt F) → (⟨S2048x1, .f32⟩ : BufTy).Contents (Elt F) → (⟨S2048x1, .f32⟩ : BufTy).Contents (Elt F)),
    StableHlo.nullary main_cst_289 (constant S_ .f32 0xFF800000#32),
    StableHlo.binary main_v1352 main_cst_289 main_v1361 ((fun x v => Host.reduce FloatOps.maximumf x v reducesTo_S2048x2048_S_d0_1 h_S_) : (⟨S2048x2048, .f32⟩ : BufTy).Contents (Elt F) → (⟨S_, .f32⟩ : BufTy).Contents (Elt F) → (⟨S_, .f32⟩ : BufTy).Contents (Elt F)),
    StableHlo.unary main_v1361 main_v1362 (broadcastInDim S2048x1 ![] bcast_S_S2048x1 : (⟨S_, .f32⟩ : BufTy).Contents (Elt F) → (⟨S2048x1, .f32⟩ : BufTy).Contents (Elt F)),
    StableHlo.binary main_v1360 main_v1362 main_v1363 (mulf : (⟨S2048x1, .f32⟩ : BufTy).Contents (Elt F) → (⟨S2048x1, .f32⟩ : BufTy).Contents (Elt F) → (⟨S2048x1, .f32⟩ : BufTy).Contents (Elt F)),
    StableHlo.nullary main_cst_290 (constant S_ .f32 0x00000000#32),
    StableHlo.unary main_cst_290 main_v1364 (broadcastInDim S2048x2048 ![] bcast_S_S2048x2048 : (⟨S_, .f32⟩ : BufTy).Contents (Elt F) → (⟨S2048x2048, .f32⟩ : BufTy).Contents (Elt F)),
    StableHlo.binary main_v1341 main_v1364 main_v1365 (cmpf .ogt : (⟨S2048x2048, .f32⟩ : BufTy).Contents (Elt F) → (⟨S2048x2048, .f32⟩ : BufTy).Contents (Elt F) → (⟨S2048x2048, .i1⟩ : BufTy).Contents (Elt F)),
    StableHlo.unary main_v1363 main_v1366 (broadcastInDim S2048x2048 ![0, 1] bcast_S2048x1_S2048x2048_0_1 : (⟨S2048x1, .f32⟩ : BufTy).Contents (Elt F) → (⟨S2048x2048, .f32⟩ : BufTy).Contents (Elt F)),
    StableHlo.binary main_v1352 main_v1366 main_v1367 (addf : (⟨S2048x2048, .f32⟩ : BufTy).Contents (Elt F) → (⟨S2048x2048, .f32⟩ : BufTy).Contents (Elt F) → (⟨S2048x2048, .f32⟩ : BufTy).Contents (Elt F)),
    StableHlo.nullary main_cst_291 (constant S_ .f32 0xD368D4A5#32),
    StableHlo.TRef.unary (StableHlo.TRef.of (T := ⟨S_, .f32⟩) main_cst_291) main_call61.v0 id,
    StableHlo.TRef.unary main_call61.v0 main_call61.v1 (broadcastInDim S2048x2048 ![] bcast_S_S2048x2048),
    StableHlo.TRef.ternary (StableHlo.TRef.of (T := ⟨S2048x2048, .i1⟩) main_v1365) (StableHlo.TRef.of (T := ⟨S2048x2048, .f32⟩) main_v1367) main_call61.v1 main_call61.v2 select,
    StableHlo.nullary main_cst_292 (constant S_ .f32 0xFF800000#32),
    StableHlo.binary main_v1368 main_cst_292 main_v1369 ((fun x v => Host.reduce FloatOps.maximumf x v reducesTo_S2048x2048_S2048_d1 h_S_) : (⟨S2048x2048, .f32⟩ : BufTy).Contents (Elt F) → (⟨S_, .f32⟩ : BufTy).Contents (Elt F) → (⟨S2048, .f32⟩ : BufTy).Contents (Elt F)),
    StableHlo.nullary main_cst_293 (constant S_ .f32 0xFF800000#32),
    StableHlo.unary main_cst_293 main_v1370 (broadcastInDim S2048 ![] bcast_S_S2048 : (⟨S_, .f32⟩ : BufTy).Contents (Elt F) → (⟨S2048, .f32⟩ : BufTy).Contents (Elt F)),
    StableHlo.binary main_v1370 main_v1369 main_v1371 (maximumf : (⟨S2048, .f32⟩ : BufTy).Contents (Elt F) → (⟨S2048, .f32⟩ : BufTy).Contents (Elt F) → (⟨S2048, .f32⟩ : BufTy).Contents (Elt F)),
    StableHlo.unary main_v1371 main_v1372 (broadcastInDim S2048x1 ![0] bcast_S2048_S2048x1_0 : (⟨S2048, .f32⟩ : BufTy).Contents (Elt F) → (⟨S2048x1, .f32⟩ : BufTy).Contents (Elt F)),
    StableHlo.unary main_v1372 main_v1373 (broadcastInDim S2048x2048 ![0, 1] bcast_S2048x1_S2048x2048_0_1 : (⟨S2048x1, .f32⟩ : BufTy).Contents (Elt F) → (⟨S2048x2048, .f32⟩ : BufTy).Contents (Elt F)),
    StableHlo.binary main_v1368 main_v1373 main_v1374 (subf : (⟨S2048x2048, .f32⟩ : BufTy).Contents (Elt F) → (⟨S2048x2048, .f32⟩ : BufTy).Contents (Elt F) → (⟨S2048x2048, .f32⟩ : BufTy).Contents (Elt F)),
    StableHlo.unary main_v1374 main_v1375 (Host.exp : (⟨S2048x2048, .f32⟩ : BufTy).Contents (Elt F) → (⟨S2048x2048, .f32⟩ : BufTy).Contents (Elt F)),
    StableHlo.nullary main_cst_294 (constant S_ .f32 0x00000000#32),
    StableHlo.binary main_v1375 main_cst_294 main_v1376 ((fun x v => Host.reduceAdd x v reducesTo_S2048x2048_S2048_d1 h_S_) : (⟨S2048x2048, .f32⟩ : BufTy).Contents (Elt F) → (⟨S_, .f32⟩ : BufTy).Contents (Elt F) → (⟨S2048, .f32⟩ : BufTy).Contents (Elt F)),
    StableHlo.unary main_v1376 main_v1377 (broadcastInDim S2048x1 ![0] bcast_S2048_S2048x1_0 : (⟨S2048, .f32⟩ : BufTy).Contents (Elt F) → (⟨S2048x1, .f32⟩ : BufTy).Contents (Elt F)),
    StableHlo.unary main_v1377 main_v1378 (broadcastInDim S2048x2048 ![0, 1] bcast_S2048x1_S2048x2048_0_1 : (⟨S2048x1, .f32⟩ : BufTy).Contents (Elt F) → (⟨S2048x2048, .f32⟩ : BufTy).Contents (Elt F)),
    StableHlo.binary main_v1375 main_v1378 main_v1379 (Host.divf : (⟨S2048x2048, .f32⟩ : BufTy).Contents (Elt F) → (⟨S2048x2048, .f32⟩ : BufTy).Contents (Elt F) → (⟨S2048x2048, .f32⟩ : BufTy).Contents (Elt F)),
    StableHlo.unary main_v1379 main_v1380 ((transpose S2048x2048 [1, 0] · transposes_S2048x2048_S2048x2048_1_0) : (⟨S2048x2048, .f32⟩ : BufTy).Contents (Elt F) → (⟨S2048x2048, .f32⟩ : BufTy).Contents (Elt F)),
    StableHlo.binary main_v1380 main_v1340 main_v1381 ((fun l r => Host.dotGeneral dot_S2048x2048_S2048x8_S2048x8_1_0_0_1_n_n none l r) : (⟨S2048x2048, .f32⟩ : BufTy).Contents (Elt F) → (⟨S2048x8, .f32⟩ : BufTy).Contents (Elt F) → (⟨S2048x8, .f32⟩ : BufTy).Contents (Elt F)),
    StableHlo.TRef.nullary main_call62.cst (constant S_ .f32 0x00000000#32),
    StableHlo.TRef.unary main_call62.cst main_call62.v0 (broadcastInDim S2048x8 ![] bcast_S_S2048x8),
    StableHlo.TRef.binary (StableHlo.TRef.of (T := ⟨S2048x8, .f32⟩) main_v1381) main_call62.v0 main_call62.v1 (cmpf .ogt),
    StableHlo.TRef.nullary main_call62.cst_0 (constant S_ .f32 0x00000000#32),
    StableHlo.TRef.unary main_call62.cst_0 main_call62.v2 (broadcastInDim S2048x8 ![] bcast_S_S2048x8),
    StableHlo.TRef.binary (StableHlo.TRef.of (T := ⟨S2048x8, .f32⟩) main_v1381) main_call62.v2 main_call62.v3 (cmpf .ogt),
    StableHlo.TRef.nullary main_call62.cst_1 (constant S_ .f32 0x00000000#32),
    StableHlo.TRef.unary main_call62.cst_1 main_call62.call0.v0 id,
    StableHlo.TRef.unary main_call62.call0.v0 main_call62.call0.v1 (broadcastInDim S2048x8 ![] bcast_S_S2048x8),
    StableHlo.TRef.ternary main_call62.v3 main_call62.call0.v1 (StableHlo.TRef.of (T := ⟨S2048x8, .f32⟩) main_v1381) main_call62.call0.v2 select,
    StableHlo.TRef.unary main_call62.call0.v2 main_call62.v5 Host.expm1,
    StableHlo.TRef.nullary main_call62.cst_2 (constant S_ .f32 0x3F800000#32),
    StableHlo.TRef.unary main_call62.cst_2 main_call62.v6 (broadcastInDim S2048x8 ![] bcast_S_S2048x8),
    StableHlo.TRef.binary main_call62.v6 main_call62.v5 main_call62.v7 mulf,
    StableHlo.TRef.ternary main_call62.v1 (StableHlo.TRef.of (T := ⟨S2048x8, .f32⟩) main_v1381) main_call62.v7 main_call62.call1.v0 select ]

set_option maxRecDepth 16384 in
set_option maxHeartbeats 4000000 in
/-- The window is that line: the called functions unfold at their calls and sequencing re-associates. -/
theorem main_part27_eq (c : Dev nD) : main_part27 (F := F) c = StableHlo.seq ops_part27 := rfl

set_option maxRecDepth 16384 in
set_option maxHeartbeats 4000000 in
/-- Every operation of the window is good; the result's index is compared by computation. -/
theorem ops_part27_good : (ops_part27 : List (HloOp τ sig (Elt F))).Forall (Good 12) :=
  ⟨nullary_good (h := by decide) .., binary_good (h := by decide) .., unary_good (h := by decide) .., unary_good (h := by decide) ..,
    binary_good (h := by decide) .., unary_good (h := by decide) .., binary_good (h := by decide) .., nullary_good (h := by decide) ..,
    unary_good (h := by decide) .., binary_good (h := by decide) .., nullary_good (h := by decide) .., unary_good (h := by decide) ..,
    binary_good (h := by decide) .., nullary_good (h := by decide) .., unary_good (h := by decide) .., unary_good (h := by decide) ..,
    ternary_good (h := by decide) .., unary_good (h := by decide) .., nullary_good (h := by decide) .., unary_good (h := by decide) ..,
    binary_good (h := by decide) .., ternary_good (h := by decide) .., unary_good (h := by decide) .., binary_good (h := by decide) ..,
    binary_good (h := by decide) .., unary_good (h := by decide) .., binary_good (h := by decide) .., unary_good (h := by decide) ..,
    binary_good (h := by decide) .., unary_good (h := by decide) .., unary_good (h := by decide) .., unary_good (h := by decide) ..,
    binary_good (h := by decide) .., nullary_good (h := by decide) .., nullary_good (h := by decide) .., unary_good (h := by decide) ..,
    binary_good (h := by decide) .., unary_good (h := by decide) .., unary_good (h := by decide) .., binary_good (h := by decide) ..,
    ternary_good (h := by decide) .., nullary_good (h := by decide) .., binary_good (h := by decide) .., unary_good (h := by decide) ..,
    binary_good (h := by decide) .., nullary_good (h := by decide) .., binary_good (h := by decide) .., nullary_good (h := by decide) ..,
    binary_good (h := by decide) .., binary_good (h := by decide) .., unary_good (h := by decide) .., binary_good (h := by decide) ..,
    nullary_good (h := by decide) .., binary_good (h := by decide) .., unary_good (h := by decide) .., binary_good (h := by decide) ..,
    nullary_good (h := by decide) .., unary_good (h := by decide) .., binary_good (h := by decide) .., unary_good (h := by decide) ..,
    binary_good (h := by decide) .., nullary_good (h := by decide) .., unary_good (h := by decide) .., unary_good (h := by decide) ..,
    ternary_good (h := by decide) .., nullary_good (h := by decide) .., binary_good (h := by decide) .., nullary_good (h := by decide) ..,
    unary_good (h := by decide) .., binary_good (h := by decide) .., unary_good (h := by decide) .., unary_good (h := by decide) ..,
    binary_good (h := by decide) .., unary_good (h := by decide) .., nullary_good (h := by decide) .., binary_good (h := by decide) ..,
    unary_good (h := by decide) .., unary_good (h := by decide) .., binary_good (h := by decide) .., unary_good (h := by decide) ..,
    binary_good (h := by decide) .., nullary_good (h := by decide) .., unary_good (h := by decide) .., binary_good (h := by decide) ..,
    nullary_good (h := by decide) .., unary_good (h := by decide) .., binary_good (h := by decide) .., nullary_good (h := by decide) ..,
    unary_good (h := by decide) .., unary_good (h := by decide) .., ternary_good (h := by decide) .., unary_good (h := by decide) ..,
    nullary_good (h := by decide) .., unary_good (h := by decide) .., binary_good (h := by decide) .., ternary_good (h := by decide) ..⟩

end Cert.ReferenceIdeal.Hand

end
-- ==== Proof.Ref.W28.lean ====
import proofs.«146970_j35948876268088_1_alg».proof.ReferenceIdeal.P05
import proofs.«146970_j35948876268088_1_alg».proof.Proof.Ref.Keep

noncomputable section

namespace Cert.ReferenceIdeal.Hand

open Cert.ReferenceIdeal Idealize.ShloMosaic Idealize.ShloMosaic.TcCoe Idealize.SL.Sem Idealize.ShloMosaic.StableHlo

variable {F : FTy → Type} [FloatOps F]

variable [Facts]
open Facts₀ Facts

set_option maxHeartbeats 4000000 in
/-- The operations of window 28, in order; a called function's operations stand in its call's place. -/
abbrev ops_part28 : List (HloOp τ sig (Elt F)) :=
  [ StableHlo.unary main_v1258 main_v1383 ((extractStridedSlice S16x1 ![0, 1] · slices_S16x8_S16x1_0_1) : (⟨S16x8, .f32⟩ : BufTy).Contents (Elt F) → (⟨S16x1, .f32⟩ : BufTy).Contents (Elt F)),
    StableHlo.unary main_v1258 main_v1384 ((extractStridedSlice S16x1 ![0, 5] · slices_S16x8_S16x1_0_5) : (⟨S16x8, .f32⟩ : BufTy).Contents (Elt F) → (⟨S16x1, .f32⟩ : BufTy).Contents (Elt F)),
    StableHlo.unary main_arg4 main_v1385 ((extractStridedSlice S1x256x8 ![1, 0, 0] · slices_S4x256x8_S1x256x8_1_0_0) : (⟨S4x256x8, .f32⟩ : BufTy).Contents (Elt F) → (⟨S1x256x8, .f32⟩ : BufTy).Contents (Elt F)),
    StableHlo.reshape main_v1385 main_v1386 rfl shapeCasts_S1x256x8_S256x8,
    StableHlo.binary main_v144 main_v144 main_v1387 (mulf : (⟨S2048x256, .f32⟩ : BufTy).Contents (Elt F) → (⟨S2048x256, .f32⟩ : BufTy).Contents (Elt F) → (⟨S2048x256, .f32⟩ : BufTy).Contents (Elt F)),
    StableHlo.nullary main_cst_295 (constant S_ .f32 0x00000000#32),
    StableHlo.binary main_v1387 main_cst_295 main_v1388 ((fun x v => Host.reduceAdd x v reducesTo_S2048x256_S2048_d1 h_S_) : (⟨S2048x256, .f32⟩ : BufTy).Contents (Elt F) → (⟨S_, .f32⟩ : BufTy).Contents (Elt F) → (⟨S2048, .f32⟩ : BufTy).Contents (Elt F)),
    StableHlo.unary main_v1388 main_v1389 (Host.sqrt : (⟨S2048, .f32⟩ : BufTy).Contents (Elt F) → (⟨S2048, .f32⟩ : BufTy).Contents (Elt F)),
    StableHlo.unary main_v144 main_v1390 ((transpose S256x2048 [1, 0] · transposes_S2048x256_S256x2048_1_0) : (⟨S2048x256, .f32⟩ : BufTy).Contents (Elt F) → (⟨S256x2048, .f32⟩ : BufTy).Contents (Elt F)),
    StableHlo.binary main_v144 main_v1390 main_v1391 ((fun l r => Host.dotGeneral dot_S2048x256_S256x2048_S2048x2048_1_0_0_1_n_n none l r) : (⟨S2048x256, .f32⟩ : BufTy).Contents (Elt F) → (⟨S256x2048, .f32⟩ : BufTy).Contents (Elt F) → (⟨S2048x2048, .f32⟩ : BufTy).Contents (Elt F)),
    StableHlo.unary main_v1389 main_v1392 (broadcastInDim S2048x1 ![0] bcast_S2048_S2048x1_0 : (⟨S2048, .f32⟩ : BufTy).Contents (Elt F) → (⟨S2048x1, .f32⟩ : BufTy).Contents (Elt F)),
    StableHlo.unary main_v1389 main_v1393 (broadcastInDim S1x2048 ![1] bcast_S2048_S1x2048_1 : (⟨S2048, .f32⟩ : BufTy).Contents (Elt F) → (⟨S1x2048, .f32⟩ : BufTy).Contents (Elt F)),
    StableHlo.unary main_v1392 main_v1394 (broadcastInDim S2048x2048 ![0, 1] bcast_S2048x1_S2048x2048_0_1 : (⟨S2048x1, .f32⟩ : BufTy).Contents (Elt F) → (⟨S2048x2048, .f32⟩ : BufTy).Contents (Elt F)),
    StableHlo.unary main_v1393 main_v1395 (broadcastInDim S2048x2048 ![0, 1] bcast_S1x2048_S2048x2048_0_1 : (⟨S1x2048, .f32⟩ : BufTy).Contents (Elt F) → (⟨S2048x2048, .f32⟩ : BufTy).Contents (Elt F)),
    StableHlo.binary main_v1394 main_v1395 main_v1396 (mulf : (⟨S2048x2048, .f32⟩ : BufTy).Contents (Elt F) → (⟨S2048x2048, .f32⟩ : BufTy).Contents (Elt F) → (⟨S2048x2048, .f32⟩ : BufTy).Contents (Elt F)),
    StableHlo.binary main_v1391 main_v1396 main_v1397 (Host.divf : (⟨S2048x2048, .f32⟩ : BufTy).Contents (Elt F) → (⟨S2048x2048, .f32⟩ : BufTy).Contents (Elt F) → (⟨S2048x2048, .f32⟩ : BufTy).Contents (Elt F)),
    StableHlo.nullary main_v1398 (iotaInDim S2048x2048 32 0),
    StableHlo.nullary main_v1399 (iotaInDim S2048x2048 32 1),
    StableHlo.nullary main_c_296 (constantI S_ 32 0#32),
    StableHlo.unary main_c_296 main_v1400 (broadcastInDim S2048x2048 ![] bcast_S_S2048x2048 : (⟨S_, .i32⟩ : BufTy).Contents (Elt F) → (⟨S2048x2048, .i32⟩ : BufTy).Contents (Elt F)),
    StableHlo.binary main_v1398 main_v1400 main_v1401 (addi : (⟨S2048x2048, .i32⟩ : BufTy).Contents (Elt F) → (⟨S2048x2048, .i32⟩ : BufTy).Contents (Elt F) → (⟨S2048x2048, .i32⟩ : BufTy).Contents (Elt F)),
    StableHlo.binary main_v1401 main_v1399 main_v1402 (cmpi .eq : (⟨S2048x2048, .i32⟩ : BufTy).Contents (Elt F) → (⟨S2048x2048, .i32⟩ : BufTy).Contents (Elt F) → (⟨S2048x2048, .i1⟩ : BufTy).Contents (Elt F)),
    StableHlo.unary main_v1402 main_v1403 (uitofp .f32 : (⟨S2048x2048, .i1⟩ : BufTy).Contents (Elt F) → (⟨S2048x2048, .f32⟩ : BufTy).Contents (Elt F)),
    StableHlo.nullary main_cst_297 (constant S_ .f32 0x3F800000#32),
    StableHlo.unary main_cst_297 main_v1404 (broadcastInDim S2048x2048 ![] bcast_S_S2048x2048 : (⟨S_, .f32⟩ : BufTy).Contents (Elt F) → (⟨S2048x2048, .f32⟩ : BufTy).Contents (Elt F)),
    StableHlo.binary main_v1404 main_v1403 main_v1405 (subf : (⟨S2048x2048, .f32⟩ : BufTy).Contents (Elt F) → (⟨S2048x2048, .f32⟩ : BufTy).Contents (Elt F) → (⟨S2048x2048, .f32⟩ : BufTy).Contents (Elt F)),
    StableHlo.nullary main_cst_298 (constant S_ .f32 0x3F000000#32),
    StableHlo.unary main_cst_298 main_v1406 (broadcastInDim S2048x2048 ![] bcast_S_S2048x2048 : (⟨S_, .f32⟩ : BufTy).Contents (Elt F) → (⟨S2048x2048, .f32⟩ : BufTy).Contents (Elt F)),
    StableHlo.binary main_v1397 main_v1406 main_v1407 (cmpf .ogt : (⟨S2048x2048, .f32⟩ : BufTy).Contents (Elt F) → (⟨S2048x2048, .f32⟩ : BufTy).Contents (Elt F) → (⟨S2048x2048, .i1⟩ : BufTy).Contents (Elt F)),
    StableHlo.nullary main_cst_299 (constant S_ .f32 0x00000000#32),
    StableHlo.TRef.unary (StableHlo.TRef.of (T := ⟨S_, .f32⟩) main_cst_299) main_call63.v0 id,
    StableHlo.TRef.unary main_call63.v0 main_call63.v1 (broadcastInDim S2048x2048 ![] bcast_S_S2048x2048),
    StableHlo.TRef.ternary (StableHlo.TRef.of (T := ⟨S2048x2048, .i1⟩) main_v1407) (StableHlo.TRef.of (T := ⟨S2048x2048, .f32⟩) main_v1397) main_call63.v1 main_call63.v2 select,
    StableHlo.binary main_v1408 main_v1405 main_v1409 (mulf : (⟨S2048x2048, .f32⟩ : BufTy).Contents (Elt F) → (⟨S2048x2048, .f32⟩ : BufTy).Contents (Elt F) → (⟨S2048x2048, .f32⟩ : BufTy).Contents (Elt F)),
    StableHlo.unary main_v122 main_v1410 ((transpose S2048x2048 [1, 0] · transposes_S2048x2048_S2048x2048_1_0) : (⟨S2048x2048, .f32⟩ : BufTy).Contents (Elt F) → (⟨S2048x2048, .f32⟩ : BufTy).Contents (Elt F)),
    StableHlo.binary main_v122 main_v1410 main_v1411 ((fun l r => Host.dotGeneral dot_S2048x2048_S2048x2048_S2048x2048_1_0_0_1_n_n none l r) : (⟨S2048x2048, .f32⟩ : BufTy).Contents (Elt F) → (⟨S2048x2048, .f32⟩ : BufTy).Contents (Elt F) → (⟨S2048x2048, .f32⟩ : BufTy).Contents (Elt F)),
    StableHlo.nullary main_cst_300 (constant S_ .f32 0x00000000#32),
    StableHlo.unary main_cst_300 main_v1412 (broadcastInDim S2048x2048 ![] bcast_S_S2048x2048 : (⟨S_, .f32⟩ : BufTy).Contents (Elt F) → (⟨S2048x2048, .f32⟩ : BufTy).Contents (Elt F)),
    StableHlo.binary main_v1411 main_v1412 main_v1413 (cmpf .ogt : (⟨S2048x2048, .f32⟩ : BufTy).Contents (Elt F) → (⟨S2048x2048, .f32⟩ : BufTy).Contents (Elt F) → (⟨S2048x2048, .i1⟩ : BufTy).Contents (Elt F)),
    StableHlo.unary main_v1413 main_v1414 (uitofp .f32 : (⟨S2048x2048, .i1⟩ : BufTy).Contents (Elt F) → (⟨S2048x2048, .f32⟩ : BufTy).Contents (Elt F)),
    StableHlo.binary main_v1414 main_v1405 main_v1415 (mulf : (⟨S2048x2048, .f32⟩ : BufTy).Contents (Elt F) → (⟨S2048x2048, .f32⟩ : BufTy).Contents (Elt F) → (⟨S2048x2048, .f32⟩ : BufTy).Contents (Elt F)),
    StableHlo.binary main_v1409 main_v1415 main_v1416 (mulf : (⟨S2048x2048, .f32⟩ : BufTy).Contents (Elt F) → (⟨S2048x2048, .f32⟩ : BufTy).Contents (Elt F) → (⟨S2048x2048, .f32⟩ : BufTy).Contents (Elt F)),
    StableHlo.nullary main_cst_301 (constant S_ .f32 0x00000000#32),
    StableHlo.binary main_v1416 main_cst_301 main_v1417 ((fun x v => Host.reduceAdd x v reducesTo_S2048x2048_S2048_d1 h_S_) : (⟨S2048x2048, .f32⟩ : BufTy).Contents (Elt F) → (⟨S_, .f32⟩ : BufTy).Contents (Elt F) → (⟨S2048, .f32⟩ : BufTy).Contents (Elt F)),
    StableHlo.unary main_v1417 main_v1418 (broadcastInDim S2048x1 ![0] bcast_S2048_S2048x1_0 : (⟨S2048, .f32⟩ : BufTy).Contents (Elt F) → (⟨S2048x1, .f32⟩ : BufTy).Contents (Elt F)),
    StableHlo.unary main_v1418 main_v1419 (broadcastInDim S2048x2048 ![0, 1] bcast_S2048x1_S2048x2048_0_1 : (⟨S2048x1, .f32⟩ : BufTy).Contents (Elt F) → (⟨S2048x2048, .f32⟩ : BufTy).Contents (Elt F)),
    StableHlo.binary main_v122 main_v1419 main_v1420 (mulf : (⟨S2048x2048, .f32⟩ : BufTy).Contents (Elt F) → (⟨S2048x2048, .f32⟩ : BufTy).Contents (Elt F) → (⟨S2048x2048, .f32⟩ : BufTy).Contents (Elt F)),
    StableHlo.nullary main_cst_302 (constant S_ .f32 0x00000000#32),
    StableHlo.binary main_v1420 main_cst_302 main_v1421 ((fun x v => Host.reduceAdd x v reducesTo_S2048x2048_S2048_d0 h_S_) : (⟨S2048x2048, .f32⟩ : BufTy).Contents (Elt F) → (⟨S_, .f32⟩ : BufTy).Contents (Elt F) → (⟨S2048, .f32⟩ : BufTy).Contents (Elt F)),
    StableHlo.unary main_v1421 main_v1422 (broadcastInDim S2048x1 ![0] bcast_S2048_S2048x1_0 : (⟨S2048, .f32⟩ : BufTy).Contents (Elt F) → (⟨S2048x1, .f32⟩ : BufTy).Contents (Elt F)),
    StableHlo.binary main_v144 main_v1386 main_v1423 ((fun l r => Host.dotGeneral dot_S2048x256_S256x8_S2048x8_1_0_0_1_n_n none l r) : (⟨S2048x256, .f32⟩ : BufTy).Contents (Elt F) → (⟨S256x8, .f32⟩ : BufTy).Contents (Elt F) → (⟨S2048x8, .f32⟩ : BufTy).Contents (Elt F)),
    StableHlo.binary main_v144 main_v1386 main_v1424 ((fun l r => Host.dotGeneral dot_S2048x256_S256x8_S2048x8_1_0_0_1_n_n none l r) : (⟨S2048x256, .f32⟩ : BufTy).Contents (Elt F) → (⟨S256x8, .f32⟩ : BufTy).Contents (Elt F) → (⟨S2048x8, .f32⟩ : BufTy).Contents (Elt F)),
    StableHlo.binary main_v137 main_v1386 main_v1425 ((fun l r => Host.dotGeneral dot_S2048x256_S256x8_S2048x8_1_0_0_1_n_n none l r) : (⟨S2048x256, .f32⟩ : BufTy).Contents (Elt F) → (⟨S256x8, .f32⟩ : BufTy).Contents (Elt F) → (⟨S2048x8, .f32⟩ : BufTy).Contents (Elt F)),
    StableHlo.unary main_v1383 main_v1426 ((extractStridedSlice S8x1 ![0, 0] · slices_S16x1_S8x1_0_0) : (⟨S16x1, .f32⟩ : BufTy).Contents (Elt F) → (⟨S8x1, .f32⟩ : BufTy).Contents (Elt F)),
    StableHlo.binary main_v1424 main_v1426 main_v1427 ((fun l r => Host.dotGeneral dot_S2048x8_S8x1_S2048x1_1_0_0_1_n_n none l r) : (⟨S2048x8, .f32⟩ : BufTy).Contents (Elt F) → (⟨S8x1, .f32⟩ : BufTy).Contents (Elt F) → (⟨S2048x1, .f32⟩ : BufTy).Contents (Elt F)),
    StableHlo.unary main_v1383 main_v1428 ((extractStridedSlice S8x1 ![8, 0] · slices_S16x1_S8x1_8_0) : (⟨S16x1, .f32⟩ : BufTy).Contents (Elt F) → (⟨S8x1, .f32⟩ : BufTy).Contents (Elt F)),
    StableHlo.binary main_v1425 main_v1428 main_v1429 ((fun l r => Host.dotGeneral dot_S2048x8_S8x1_S2048x1_1_0_0_1_n_n none l r) : (⟨S2048x8, .f32⟩ : BufTy).Contents (Elt F) → (⟨S8x1, .f32⟩ : BufTy).Contents (Elt F) → (⟨S2048x1, .f32⟩ : BufTy).Contents (Elt F)),
    StableHlo.unary main_v1429 main_v1430 ((transpose S1x2048 [1, 0] · transposes_S2048x1_S1x2048_1_0) : (⟨S2048x1, .f32⟩ : BufTy).Contents (Elt F) → (⟨S1x2048, .f32⟩ : BufTy).Contents (Elt F)),
    StableHlo.unary main_v1427 main_v1431 (broadcastInDim S2048x2048 ![0, 1] bcast_S2048x1_S2048x2048_0_1 : (⟨S2048x1, .f32⟩ : BufTy).Contents (Elt F) → (⟨S2048x2048, .f32⟩ : BufTy).Contents (Elt F)),
    StableHlo.unary main_v1430 main_v1432 (broadcastInDim S2048x2048 ![0, 1] bcast_S1x2048_S2048x2048_0_1 : (⟨S1x2048, .f32⟩ : BufTy).Contents (Elt F) → (⟨S2048x2048, .f32⟩ : BufTy).Contents (Elt F)),
    StableHlo.binary main_v1431 main_v1432 main_v1433 (addf : (⟨S2048x2048, .f32⟩ : BufTy).Contents (Elt F) → (⟨S2048x2048, .f32⟩ : BufTy).Contents (Elt F) → (⟨S2048x2048, .f32⟩ : BufTy).Contents (Elt F)),
    StableHlo.nullary main_cst_303 (constant S_ .f32 0x3E4CCCCD#32) ]

set_option maxRecDepth 16384 in
set_option maxHeartbeats 4000000 in
/-- The window is that line: the called functions unfold at their calls and sequencing re-associates. -/
theorem main_part28_eq (c : Dev nD) : main_part28 (F := F) c = StableHlo.seq ops_part28 := rfl

set_option maxRecDepth 16384 in
set_option maxHeartbeats 4000000 in
/-- Every operation of the window is good; the result's index is compared by computation. -/
theorem ops_part28_good : (ops_part28 : List (HloOp τ sig (Elt F))).Forall (Good 12) :=
  ⟨unary_good (h := by decide) .., unary_good (h := by decide) .., unary_good (h := by decide) .., reshape_good (h := by decide) ..,
    binary_good (h := by decide) .., nullary_good (h := by decide) .., binary_good (h := by decide) .., unary_good (h := by decide) ..,
    unary_good (h := by decide) .., binary_good (h := by decide) .., unary_good (h := by decide) .., unary_good (h := by decide) ..,
    unary_good (h := by decide) .., unary_good (h := by decide) .., binary_good (h := by decide) .., binary_good (h := by decide) ..,
    nullary_good (h := by decide) .., nullary_good (h := by decide) .., nullary_good (h := by decide) .., unary_good (h := by decide) ..,
    binary_good (h := by decide) .., binary_good (h := by decide) .., unary_good (h := by decide) .., nullary_good (h := by decide) ..,
    unary_good (h := by decide) .., binary_good (h := by decide) .., nullary_good (h := by decide) .., unary_good (h := by decide) ..,
    binary_good (h := by decide) .., nullary_good (h := by decide) .., unary_good (h := by decide) .., unary_good (h := by decide) ..,
    ternary_good (h := by decide) .., binary_good (h := by decide) .., unary_good (h := by decide) .., binary_good (h := by decide) ..,
    nullary_good (h := by decide) .., unary_good (h := by decide) .., binary_good (h := by decide) .., unary_good (h := by decide) ..,
    binary_good (h := by decide) .., binary_good (h := by decide) .., nullary_good (h := by decide) .., binary_good (h := by decide) ..,
    unary_good (h := by decide) .., unary_good (h := by decide) .., binary_good (h := by decide) .., nullary_good (h := by decide) ..,
    binary_good (h := by decide) .., unary_good (h := by decide) .., binary_good (h := by decide) .., binary_good (h := by decide) ..,
    binary_good (h := by decide) .., unary_good (h := by decide) .., binary_good (h := by decide) .., unary_good (h := by decide) ..,
    binary_good (h := by decide) .., unary_good (h := by decide) .., unary_good (h := by decide) .., unary_good (h := by decide) ..,
    binary_good (h := by decide) .., nullary_good (h := by decide) ..⟩

end Cert.ReferenceIdeal.Hand

end
-- ==== Proof.Ref.W29.lean ====
import proofs.«146970_j35948876268088_1_alg».proof.ReferenceIdeal.P05
import proofs.«146970_j35948876268088_1_alg».proof.Proof.Ref.Keep

noncomputable section

namespace Cert.ReferenceIdeal.Hand

open Cert.ReferenceIdeal Idealize.ShloMosaic Idealize.ShloMosaic.TcCoe Idealize.SL.Sem Idealize.ShloMosaic.StableHlo

variable {F : FTy → Type} [FloatOps F]

variable [Facts]
open Facts₀ Facts

set_option maxHeartbeats 4000000 in
/-- The operations of window 29, in order; a called function's operations stand in its call's place. -/
abbrev ops_part29 : List (HloOp τ sig (Elt F)) :=
  [ StableHlo.TRef.nullary main_call64.cst (constant S_ .f32 0x00000000#32),
    StableHlo.TRef.unary main_call64.cst main_call64.v0 (broadcastInDim S2048x2048 ![] bcast_S_S2048x2048),
    StableHlo.TRef.binary (StableHlo.TRef.of (T := ⟨S2048x2048, .f32⟩) main_v1433) main_call64.v0 main_call64.v1 (cmpf .oge),
    StableHlo.TRef.unary (StableHlo.TRef.of (T := ⟨S_, .f32⟩) main_cst_303) main_call64.v2 id,
    StableHlo.TRef.unary main_call64.v2 main_call64.v3 (broadcastInDim S2048x2048 ![] bcast_S_S2048x2048),
    StableHlo.TRef.binary main_call64.v3 (StableHlo.TRef.of (T := ⟨S2048x2048, .f32⟩) main_v1433) main_call64.v4 mulf,
    StableHlo.TRef.ternary main_call64.v1 (StableHlo.TRef.of (T := ⟨S2048x2048, .f32⟩) main_v1433) main_call64.v4 main_call64.call0.v0 select,
    StableHlo.nullary main_cst_304 (constant S_ .f32 0x7F800000#32),
    StableHlo.binary main_v1418 main_cst_304 main_v1435 ((fun x v => Host.reduce FloatOps.minimumf x v reducesTo_S2048x1_S_d0_1 h_S_) : (⟨S2048x1, .f32⟩ : BufTy).Contents (Elt F) → (⟨S_, .f32⟩ : BufTy).Contents (Elt F) → (⟨S_, .f32⟩ : BufTy).Contents (Elt F)),
    StableHlo.unary main_v1435 main_v1436 (broadcastInDim S2048x1 ![] bcast_S_S2048x1 : (⟨S_, .f32⟩ : BufTy).Contents (Elt F) → (⟨S2048x1, .f32⟩ : BufTy).Contents (Elt F)),
    StableHlo.binary main_v1418 main_v1436 main_v1437 (subf : (⟨S2048x1, .f32⟩ : BufTy).Contents (Elt F) → (⟨S2048x1, .f32⟩ : BufTy).Contents (Elt F) → (⟨S2048x1, .f32⟩ : BufTy).Contents (Elt F)),
    StableHlo.nullary main_cst_305 (constant S_ .f32 0xFF800000#32),
    StableHlo.binary main_v1418 main_cst_305 main_v1438 ((fun x v => Host.reduce FloatOps.maximumf x v reducesTo_S2048x1_S_d0_1 h_S_) : (⟨S2048x1, .f32⟩ : BufTy).Contents (Elt F) → (⟨S_, .f32⟩ : BufTy).Contents (Elt F) → (⟨S_, .f32⟩ : BufTy).Contents (Elt F)),
    StableHlo.nullary main_cst_306 (constant S_ .f32 0x7F800000#32),
    StableHlo.binary main_v1418 main_cst_306 main_v1439 ((fun x v => Host.reduce FloatOps.minimumf x v reducesTo_S2048x1_S_d0_1 h_S_) : (⟨S2048x1, .f32⟩ : BufTy).Contents (Elt F) → (⟨S_, .f32⟩ : BufTy).Contents (Elt F) → (⟨S_, .f32⟩ : BufTy).Contents (Elt F)),
    StableHlo.binary main_v1438 main_v1439 main_v1440 (subf : (⟨S_, .f32⟩ : BufTy).Contents (Elt F) → (⟨S_, .f32⟩ : BufTy).Contents (Elt F) → (⟨S_, .f32⟩ : BufTy).Contents (Elt F)),
    StableHlo.unary main_v1440 main_v1441 (broadcastInDim S2048x1 ![] bcast_S_S2048x1 : (⟨S_, .f32⟩ : BufTy).Contents (Elt F) → (⟨S2048x1, .f32⟩ : BufTy).Contents (Elt F)),
    StableHlo.binary main_v1437 main_v1441 main_v1442 (Host.divf : (⟨S2048x1, .f32⟩ : BufTy).Contents (Elt F) → (⟨S2048x1, .f32⟩ : BufTy).Contents (Elt F) → (⟨S2048x1, .f32⟩ : BufTy).Contents (Elt F)),
    StableHlo.nullary main_cst_307 (constant S_ .f32 0xFF800000#32),
    StableHlo.binary main_v1434 main_cst_307 main_v1443 ((fun x v => Host.reduce FloatOps.maximumf x v reducesTo_S2048x2048_S_d0_1 h_S_) : (⟨S2048x2048, .f32⟩ : BufTy).Contents (Elt F) → (⟨S_, .f32⟩ : BufTy).Contents (Elt F) → (⟨S_, .f32⟩ : BufTy).Contents (Elt F)),
    StableHlo.unary main_v1443 main_v1444 (broadcastInDim S2048x1 ![] bcast_S_S2048x1 : (⟨S_, .f32⟩ : BufTy).Contents (Elt F) → (⟨S2048x1, .f32⟩ : BufTy).Contents (Elt F)),
    StableHlo.binary main_v1442 main_v1444 main_v1445 (mulf : (⟨S2048x1, .f32⟩ : BufTy).Contents (Elt F) → (⟨S2048x1, .f32⟩ : BufTy).Contents (Elt F) → (⟨S2048x1, .f32⟩ : BufTy).Contents (Elt F)),
    StableHlo.nullary main_cst_308 (constant S_ .f32 0x00000000#32),
    StableHlo.unary main_cst_308 main_v1446 (broadcastInDim S2048x2048 ![] bcast_S_S2048x2048 : (⟨S_, .f32⟩ : BufTy).Contents (Elt F) → (⟨S2048x2048, .f32⟩ : BufTy).Contents (Elt F)),
    StableHlo.binary main_v122 main_v1446 main_v1447 (cmpf .ogt : (⟨S2048x2048, .f32⟩ : BufTy).Contents (Elt F) → (⟨S2048x2048, .f32⟩ : BufTy).Contents (Elt F) → (⟨S2048x2048, .i1⟩ : BufTy).Contents (Elt F)),
    StableHlo.unary main_v1445 main_v1448 (broadcastInDim S2048x2048 ![0, 1] bcast_S2048x1_S2048x2048_0_1 : (⟨S2048x1, .f32⟩ : BufTy).Contents (Elt F) → (⟨S2048x2048, .f32⟩ : BufTy).Contents (Elt F)),
    StableHlo.binary main_v1434 main_v1448 main_v1449 (addf : (⟨S2048x2048, .f32⟩ : BufTy).Contents (Elt F) → (⟨S2048x2048, .f32⟩ : BufTy).Contents (Elt F) → (⟨S2048x2048, .f32⟩ : BufTy).Contents (Elt F)),
    StableHlo.nullary main_cst_309 (constant S_ .f32 0xD368D4A5#32),
    StableHlo.TRef.unary (StableHlo.TRef.of (T := ⟨S_, .f32⟩) main_cst_309) main_call65.v0 id,
    StableHlo.TRef.unary main_call65.v0 main_call65.v1 (broadcastInDim S2048x2048 ![] bcast_S_S2048x2048),
    StableHlo.TRef.ternary (StableHlo.TRef.of (T := ⟨S2048x2048, .i1⟩) main_v1447) (StableHlo.TRef.of (T := ⟨S2048x2048, .f32⟩) main_v1449) main_call65.v1 main_call65.v2 select,
    StableHlo.nullary main_cst_310 (constant S_ .f32 0xFF800000#32),
    StableHlo.binary main_v1450 main_cst_310 main_v1451 ((fun x v => Host.reduce FloatOps.maximumf x v reducesTo_S2048x2048_S2048_d1 h_S_) : (⟨S2048x2048, .f32⟩ : BufTy).Contents (Elt F) → (⟨S_, .f32⟩ : BufTy).Contents (Elt F) → (⟨S2048, .f32⟩ : BufTy).Contents (Elt F)),
    StableHlo.nullary main_cst_311 (constant S_ .f32 0xFF800000#32),
    StableHlo.unary main_cst_311 main_v1452 (broadcastInDim S2048 ![] bcast_S_S2048 : (⟨S_, .f32⟩ : BufTy).Contents (Elt F) → (⟨S2048, .f32⟩ : BufTy).Contents (Elt F)),
    StableHlo.binary main_v1452 main_v1451 main_v1453 (maximumf : (⟨S2048, .f32⟩ : BufTy).Contents (Elt F) → (⟨S2048, .f32⟩ : BufTy).Contents (Elt F) → (⟨S2048, .f32⟩ : BufTy).Contents (Elt F)),
    StableHlo.unary main_v1453 main_v1454 (broadcastInDim S2048x1 ![0] bcast_S2048_S2048x1_0 : (⟨S2048, .f32⟩ : BufTy).Contents (Elt F) → (⟨S2048x1, .f32⟩ : BufTy).Contents (Elt F)),
    StableHlo.unary main_v1454 main_v1455 (broadcastInDim S2048x2048 ![0, 1] bcast_S2048x1_S2048x2048_0_1 : (⟨S2048x1, .f32⟩ : BufTy).Contents (Elt F) → (⟨S2048x2048, .f32⟩ : BufTy).Contents (Elt F)),
    StableHlo.binary main_v1450 main_v1455 main_v1456 (subf : (⟨S2048x2048, .f32⟩ : BufTy).Contents (Elt F) → (⟨S2048x2048, .f32⟩ : BufTy).Contents (Elt F) → (⟨S2048x2048, .f32⟩ : BufTy).Contents (Elt F)),
    StableHlo.unary main_v1456 main_v1457 (Host.exp : (⟨S2048x2048, .f32⟩ : BufTy).Contents (Elt F) → (⟨S2048x2048, .f32⟩ : BufTy).Contents (Elt F)),
    StableHlo.nullary main_cst_312 (constant S_ .f32 0x00000000#32),
    StableHlo.binary main_v1457 main_cst_312 main_v1458 ((fun x v => Host.reduceAdd x v reducesTo_S2048x2048_S2048_d1 h_S_) : (⟨S2048x2048, .f32⟩ : BufTy).Contents (Elt F) → (⟨S_, .f32⟩ : BufTy).Contents (Elt F) → (⟨S2048, .f32⟩ : BufTy).Contents (Elt F)),
    StableHlo.unary main_v1458 main_v1459 (broadcastInDim S2048x1 ![0] bcast_S2048_S2048x1_0 : (⟨S2048, .f32⟩ : BufTy).Contents (Elt F) → (⟨S2048x1, .f32⟩ : BufTy).Contents (Elt F)),
    StableHlo.unary main_v1459 main_v1460 (broadcastInDim S2048x2048 ![0, 1] bcast_S2048x1_S2048x2048_0_1 : (⟨S2048x1, .f32⟩ : BufTy).Contents (Elt F) → (⟨S2048x2048, .f32⟩ : BufTy).Contents (Elt F)),
    StableHlo.binary main_v1457 main_v1460 main_v1461 (Host.divf : (⟨S2048x2048, .f32⟩ : BufTy).Contents (Elt F) → (⟨S2048x2048, .f32⟩ : BufTy).Contents (Elt F) → (⟨S2048x2048, .f32⟩ : BufTy).Contents (Elt F)),
    StableHlo.unary main_v1461 main_v1462 ((transpose S2048x2048 [1, 0] · transposes_S2048x2048_S2048x2048_1_0) : (⟨S2048x2048, .f32⟩ : BufTy).Contents (Elt F) → (⟨S2048x2048, .f32⟩ : BufTy).Contents (Elt F)),
    StableHlo.binary main_v1462 main_v1423 main_v1463 ((fun l r => Host.dotGeneral dot_S2048x2048_S2048x8_S2048x8_1_0_0_1_n_n none l r) : (⟨S2048x2048, .f32⟩ : BufTy).Contents (Elt F) → (⟨S2048x8, .f32⟩ : BufTy).Contents (Elt F) → (⟨S2048x8, .f32⟩ : BufTy).Contents (Elt F)),
    StableHlo.TRef.nullary main_call66.cst (constant S_ .f32 0x00000000#32),
    StableHlo.TRef.unary main_call66.cst main_call66.v0 (broadcastInDim S2048x8 ![] bcast_S_S2048x8),
    StableHlo.TRef.binary (StableHlo.TRef.of (T := ⟨S2048x8, .f32⟩) main_v1463) main_call66.v0 main_call66.v1 (cmpf .ogt),
    StableHlo.TRef.nullary main_call66.cst_0 (constant S_ .f32 0x00000000#32),
    StableHlo.TRef.unary main_call66.cst_0 main_call66.v2 (broadcastInDim S2048x8 ![] bcast_S_S2048x8),
    StableHlo.TRef.binary (StableHlo.TRef.of (T := ⟨S2048x8, .f32⟩) main_v1463) main_call66.v2 main_call66.v3 (cmpf .ogt),
    StableHlo.TRef.nullary main_call66.cst_1 (constant S_ .f32 0x00000000#32),
    StableHlo.TRef.unary main_call66.cst_1 main_call66.call0.v0 id,
    StableHlo.TRef.unary main_call66.call0.v0 main_call66.call0.v1 (broadcastInDim S2048x8 ![] bcast_S_S2048x8),
    StableHlo.TRef.ternary main_call66.v3 main_call66.call0.v1 (StableHlo.TRef.of (T := ⟨S2048x8, .f32⟩) main_v1463) main_call66.call0.v2 select,
    StableHlo.TRef.unary main_call66.call0.v2 main_call66.v5 Host.expm1,
    StableHlo.TRef.nullary main_call66.cst_2 (constant S_ .f32 0x3F800000#32),
    StableHlo.TRef.unary main_call66.cst_2 main_call66.v6 (broadcastInDim S2048x8 ![] bcast_S_S2048x8),
    StableHlo.TRef.binary main_call66.v6 main_call66.v5 main_call66.v7 mulf,
    StableHlo.TRef.ternary main_call66.v1 (StableHlo.TRef.of (T := ⟨S2048x8, .f32⟩) main_v1463) main_call66.v7 main_call66.call1.v0 select,
    StableHlo.unary main_v122 main_v1465 ((transpose S2048x2048 [1, 0] · transposes_S2048x2048_S2048x2048_1_0) : (⟨S2048x2048, .f32⟩ : BufTy).Contents (Elt F) → (⟨S2048x2048, .f32⟩ : BufTy).Contents (Elt F)),
    StableHlo.binary main_v137 main_v1386 main_v1466 ((fun l r => Host.dotGeneral dot_S2048x256_S256x8_S2048x8_1_0_0_1_n_n none l r) : (⟨S2048x256, .f32⟩ : BufTy).Contents (Elt F) → (⟨S256x8, .f32⟩ : BufTy).Contents (Elt F) → (⟨S2048x8, .f32⟩ : BufTy).Contents (Elt F)),
    StableHlo.binary main_v144 main_v1386 main_v1467 ((fun l r => Host.dotGeneral dot_S2048x256_S256x8_S2048x8_1_0_0_1_n_n none l r) : (⟨S2048x256, .f32⟩ : BufTy).Contents (Elt F) → (⟨S256x8, .f32⟩ : BufTy).Contents (Elt F) → (⟨S2048x8, .f32⟩ : BufTy).Contents (Elt F)),
    StableHlo.unary main_v1384 main_v1468 ((extractStridedSlice S8x1 ![0, 0] · slices_S16x1_S8x1_0_0) : (⟨S16x1, .f32⟩ : BufTy).Contents (Elt F) → (⟨S8x1, .f32⟩ : BufTy).Contents (Elt F)),
    StableHlo.binary main_v1466 main_v1468 main_v1469 ((fun l r => Host.dotGeneral dot_S2048x8_S8x1_S2048x1_1_0_0_1_n_n none l r) : (⟨S2048x8, .f32⟩ : BufTy).Contents (Elt F) → (⟨S8x1, .f32⟩ : BufTy).Contents (Elt F) → (⟨S2048x1, .f32⟩ : BufTy).Contents (Elt F)),
    StableHlo.unary main_v1384 main_v1470 ((extractStridedSlice S8x1 ![8, 0] · slices_S16x1_S8x1_8_0) : (⟨S16x1, .f32⟩ : BufTy).Contents (Elt F) → (⟨S8x1, .f32⟩ : BufTy).Contents (Elt F)),
    StableHlo.binary main_v1467 main_v1470 main_v1471 ((fun l r => Host.dotGeneral dot_S2048x8_S8x1_S2048x1_1_0_0_1_n_n none l r) : (⟨S2048x8, .f32⟩ : BufTy).Contents (Elt F) → (⟨S8x1, .f32⟩ : BufTy).Contents (Elt F) → (⟨S2048x1, .f32⟩ : BufTy).Contents (Elt F)),
    StableHlo.unary main_v1471 main_v1472 ((transpose S1x2048 [1, 0] · transposes_S2048x1_S1x2048_1_0) : (⟨S2048x1, .f32⟩ : BufTy).Contents (Elt F) → (⟨S1x2048, .f32⟩ : BufTy).Contents (Elt F)),
    StableHlo.unary main_v1469 main_v1473 (broadcastInDim S2048x2048 ![0, 1] bcast_S2048x1_S2048x2048_0_1 : (⟨S2048x1, .f32⟩ : BufTy).Contents (Elt F) → (⟨S2048x2048, .f32⟩ : BufTy).Contents (Elt F)),
    StableHlo.unary main_v1472 main_v1474 (broadcastInDim S2048x2048 ![0, 1] bcast_S1x2048_S2048x2048_0_1 : (⟨S1x2048, .f32⟩ : BufTy).Contents (Elt F) → (⟨S2048x2048, .f32⟩ : BufTy).Contents (Elt F)),
    StableHlo.binary main_v1473 main_v1474 main_v1475 (addf : (⟨S2048x2048, .f32⟩ : BufTy).Contents (Elt F) → (⟨S2048x2048, .f32⟩ : BufTy).Contents (Elt F) → (⟨S2048x2048, .f32⟩ : BufTy).Contents (Elt F)),
    StableHlo.nullary main_cst_313 (constant S_ .f32 0x3E4CCCCD#32),
    StableHlo.TRef.nullary main_call67.cst (constant S_ .f32 0x00000000#32),
    StableHlo.TRef.unary main_call67.cst main_call67.v0 (broadcastInDim S2048x2048 ![] bcast_S_S2048x2048),
    StableHlo.TRef.binary (StableHlo.TRef.of (T := ⟨S2048x2048, .f32⟩) main_v1475) main_call67.v0 main_call67.v1 (cmpf .oge),
    StableHlo.TRef.unary (StableHlo.TRef.of (T := ⟨S_, .f32⟩) main_cst_313) main_call67.v2 id,
    StableHlo.TRef.unary main_call67.v2 main_call67.v3 (broadcastInDim S2048x2048 ![] bcast_S_S2048x2048),
    StableHlo.TRef.binary main_call67.v3 (StableHlo.TRef.of (T := ⟨S2048x2048, .f32⟩) main_v1475) main_call67.v4 mulf,
    StableHlo.TRef.ternary main_call67.v1 (StableHlo.TRef.of (T := ⟨S2048x2048, .f32⟩) main_v1475) main_call67.v4 main_call67.call0.v0 select,
    StableHlo.nullary main_cst_314 (constant S_ .f32 0x7F800000#32),
    StableHlo.binary main_v1422 main_cst_314 main_v1477 ((fun x v => Host.reduce FloatOps.minimumf x v reducesTo_S2048x1_S_d0_1 h_S_) : (⟨S2048x1, .f32⟩ : BufTy).Contents (Elt F) → (⟨S_, .f32⟩ : BufTy).Contents (Elt F) → (⟨S_, .f32⟩ : BufTy).Contents (Elt F)),
    StableHlo.unary main_v1477 main_v1478 (broadcastInDim S2048x1 ![] bcast_S_S2048x1 : (⟨S_, .f32⟩ : BufTy).Contents (Elt F) → (⟨S2048x1, .f32⟩ : BufTy).Contents (Elt F)),
    StableHlo.binary main_v1422 main_v1478 main_v1479 (subf : (⟨S2048x1, .f32⟩ : BufTy).Contents (Elt F) → (⟨S2048x1, .f32⟩ : BufTy).Contents (Elt F) → (⟨S2048x1, .f32⟩ : BufTy).Contents (Elt F)),
    StableHlo.nullary main_cst_315 (constant S_ .f32 0xFF800000#32),
    StableHlo.binary main_v1422 main_cst_315 main_v1480 ((fun x v => Host.reduce FloatOps.maximumf x v reducesTo_S2048x1_S_d0_1 h_S_) : (⟨S2048x1, .f32⟩ : BufTy).Contents (Elt F) → (⟨S_, .f32⟩ : BufTy).Contents (Elt F) → (⟨S_, .f32⟩ : BufTy).Contents (Elt F)),
    StableHlo.nullary main_cst_316 (constant S_ .f32 0x7F800000#32) ]

set_option maxRecDepth 16384 in
set_option maxHeartbeats 4000000 in
/-- The window is that line: the called functions unfold at their calls and sequencing re-associates. -/
theorem main_part29_eq (c : Dev nD) : main_part29 (F := F) c = StableHlo.seq ops_part29 := rfl

set_option maxRecDepth 16384 in
set_option maxHeartbeats 4000000 in
/-- Every operation of the window is good; the result's index is compared by computation. -/
theorem ops_part29_good : (ops_part29 : List (HloOp τ sig (Elt F))).Forall (Good 12) :=
  ⟨nullary_good (h := by decide) .., unary_good (h := by decide) .., binary_good (h := by decide) .., unary_good (h := by decide) ..,
    unary_good (h := by decide) .., binary_good (h := by decide) .., ternary_good (h := by decide) .., nullary_good (h := by decide) ..,
    binary_good (h := by decide) .., unary_good (h := by decide) .., binary_good (h := by decide) .., nullary_good (h := by decide) ..,
    binary_good (h := by decide) .., nullary_good (h := by decide) .., binary_good (h := by decide) .., binary_good (h := by decide) ..,
    unary_good (h := by decide) .., binary_good (h := by decide) .., nullary_good (h := by decide) .., binary_good (h := by decide) ..,
    unary_good (h := by decide) .., binary_good (h := by decide) .., nullary_good (h := by decide) .., unary_good (h := by decide) ..,
    binary_good (h := by decide) .., unary_good (h := by decide) .., binary_good (h := by decide) .., nullary_good (h := by decide) ..,
    unary_good (h := by decide) .., unary_good (h := by decide) .., ternary_good (h := by decide) .., nullary_good (h := by decide) ..,
    binary_good (h := by decide) .., nullary_good (h := by decide) .., unary_good (h := by decide) .., binary_good (h := by decide) ..,
    unary_good (h := by decide) .., unary_good (h := by decide) .., binary_good (h := by decide) .., unary_good (h := by decide) ..,
    nullary_good (h := by decide) .., binary_good (h := by decide) .., unary_good (h := by decide) .., unary_good (h := by decide) ..,
    binary_good (h := by decide) .., unary_good (h := by decide) .., binary_good (h := by decide) .., nullary_good (h := by decide) ..,
    unary_good (h := by decide) .., binary_good (h := by decide) .., nullary_good (h := by decide) .., unary_good (h := by decide) ..,
    binary_good (h := by decide) .., nullary_good (h := by decide) .., unary_good (h := by decide) .., unary_good (h := by decide) ..,
    ternary_good (h := by decide) .., unary_good (h := by decide) .., nullary_good (h := by decide) .., unary_good (h := by decide) ..,
    binary_good (h := by decide) .., ternary_good (h := by decide) .., unary_good (h := by decide) .., binary_good (h := by decide) ..,
    binary_good (h := by decide) .., unary_good (h := by decide) .., binary_good (h := by decide) .., unary_good (h := by decide) ..,
    binary_good (h := by decide) .., unary_good (h := by decide) .., unary_good (h := by decide) .., unary_good (h := by decide) ..,
    binary_good (h := by decide) .., nullary_good (h := by decide) .., nullary_good (h := by decide) .., unary_good (h := by decide) ..,
    binary_good (h := by decide) .., unary_good (h := by decide) .., unary_good (h := by decide) .., binary_good (h := by decide) ..,
    ternary_good (h := by decide) .., nullary_good (h := by decide) .., binary_good (h := by decide) .., unary_good (h := by decide) ..,
    binary_good (h := by decide) .., nullary_good (h := by decide) .., binary_good (h := by decide) .., nullary_good (h := by decide) ..⟩

end Cert.ReferenceIdeal.Hand

end
-- ==== Proof.Ref.W30.lean ====
import proofs.«146970_j35948876268088_1_alg».proof.ReferenceIdeal.P05
import proofs.«146970_j35948876268088_1_alg».proof.Proof.Ref.Keep

noncomputable section

namespace Cert.ReferenceIdeal.Hand

open Cert.ReferenceIdeal Idealize.ShloMosaic Idealize.ShloMosaic.TcCoe Idealize.SL.Sem Idealize.ShloMosaic.StableHlo

variable {F : FTy → Type} [FloatOps F]

variable [Facts]
open Facts₀ Facts

set_option maxHeartbeats 4000000 in
/-- The operations of window 30, in order; a called function's operations stand in its call's place. -/
abbrev ops_part30 : List (HloOp τ sig (Elt F)) :=
  [ StableHlo.binary main_v1422 main_cst_316 main_v1481 ((fun x v => Host.reduce FloatOps.minimumf x v reducesTo_S2048x1_S_d0_1 h_S_) : (⟨S2048x1, .f32⟩ : BufTy).Contents (Elt F) → (⟨S_, .f32⟩ : BufTy).Contents (Elt F) → (⟨S_, .f32⟩ : BufTy).Contents (Elt F)),
    StableHlo.binary main_v1480 main_v1481 main_v1482 (subf : (⟨S_, .f32⟩ : BufTy).Contents (Elt F) → (⟨S_, .f32⟩ : BufTy).Contents (Elt F) → (⟨S_, .f32⟩ : BufTy).Contents (Elt F)),
    StableHlo.unary main_v1482 main_v1483 (broadcastInDim S2048x1 ![] bcast_S_S2048x1 : (⟨S_, .f32⟩ : BufTy).Contents (Elt F) → (⟨S2048x1, .f32⟩ : BufTy).Contents (Elt F)),
    StableHlo.binary main_v1479 main_v1483 main_v1484 (Host.divf : (⟨S2048x1, .f32⟩ : BufTy).Contents (Elt F) → (⟨S2048x1, .f32⟩ : BufTy).Contents (Elt F) → (⟨S2048x1, .f32⟩ : BufTy).Contents (Elt F)),
    StableHlo.nullary main_cst_317 (constant S_ .f32 0xFF800000#32),
    StableHlo.binary main_v1476 main_cst_317 main_v1485 ((fun x v => Host.reduce FloatOps.maximumf x v reducesTo_S2048x2048_S_d0_1 h_S_) : (⟨S2048x2048, .f32⟩ : BufTy).Contents (Elt F) → (⟨S_, .f32⟩ : BufTy).Contents (Elt F) → (⟨S_, .f32⟩ : BufTy).Contents (Elt F)),
    StableHlo.unary main_v1485 main_v1486 (broadcastInDim S2048x1 ![] bcast_S_S2048x1 : (⟨S_, .f32⟩ : BufTy).Contents (Elt F) → (⟨S2048x1, .f32⟩ : BufTy).Contents (Elt F)),
    StableHlo.binary main_v1484 main_v1486 main_v1487 (mulf : (⟨S2048x1, .f32⟩ : BufTy).Contents (Elt F) → (⟨S2048x1, .f32⟩ : BufTy).Contents (Elt F) → (⟨S2048x1, .f32⟩ : BufTy).Contents (Elt F)),
    StableHlo.nullary main_cst_318 (constant S_ .f32 0x00000000#32),
    StableHlo.unary main_cst_318 main_v1488 (broadcastInDim S2048x2048 ![] bcast_S_S2048x2048 : (⟨S_, .f32⟩ : BufTy).Contents (Elt F) → (⟨S2048x2048, .f32⟩ : BufTy).Contents (Elt F)),
    StableHlo.binary main_v1465 main_v1488 main_v1489 (cmpf .ogt : (⟨S2048x2048, .f32⟩ : BufTy).Contents (Elt F) → (⟨S2048x2048, .f32⟩ : BufTy).Contents (Elt F) → (⟨S2048x2048, .i1⟩ : BufTy).Contents (Elt F)),
    StableHlo.unary main_v1487 main_v1490 (broadcastInDim S2048x2048 ![0, 1] bcast_S2048x1_S2048x2048_0_1 : (⟨S2048x1, .f32⟩ : BufTy).Contents (Elt F) → (⟨S2048x2048, .f32⟩ : BufTy).Contents (Elt F)),
    StableHlo.binary main_v1476 main_v1490 main_v1491 (addf : (⟨S2048x2048, .f32⟩ : BufTy).Contents (Elt F) → (⟨S2048x2048, .f32⟩ : BufTy).Contents (Elt F) → (⟨S2048x2048, .f32⟩ : BufTy).Contents (Elt F)),
    StableHlo.nullary main_cst_319 (constant S_ .f32 0xD368D4A5#32),
    StableHlo.TRef.unary (StableHlo.TRef.of (T := ⟨S_, .f32⟩) main_cst_319) main_call68.v0 id,
    StableHlo.TRef.unary main_call68.v0 main_call68.v1 (broadcastInDim S2048x2048 ![] bcast_S_S2048x2048),
    StableHlo.TRef.ternary (StableHlo.TRef.of (T := ⟨S2048x2048, .i1⟩) main_v1489) (StableHlo.TRef.of (T := ⟨S2048x2048, .f32⟩) main_v1491) main_call68.v1 main_call68.v2 select,
    StableHlo.nullary main_cst_320 (constant S_ .f32 0xFF800000#32),
    StableHlo.binary main_v1492 main_cst_320 main_v1493 ((fun x v => Host.reduce FloatOps.maximumf x v reducesTo_S2048x2048_S2048_d1 h_S_) : (⟨S2048x2048, .f32⟩ : BufTy).Contents (Elt F) → (⟨S_, .f32⟩ : BufTy).Contents (Elt F) → (⟨S2048, .f32⟩ : BufTy).Contents (Elt F)),
    StableHlo.nullary main_cst_321 (constant S_ .f32 0xFF800000#32),
    StableHlo.unary main_cst_321 main_v1494 (broadcastInDim S2048 ![] bcast_S_S2048 : (⟨S_, .f32⟩ : BufTy).Contents (Elt F) → (⟨S2048, .f32⟩ : BufTy).Contents (Elt F)),
    StableHlo.binary main_v1494 main_v1493 main_v1495 (maximumf : (⟨S2048, .f32⟩ : BufTy).Contents (Elt F) → (⟨S2048, .f32⟩ : BufTy).Contents (Elt F) → (⟨S2048, .f32⟩ : BufTy).Contents (Elt F)),
    StableHlo.unary main_v1495 main_v1496 (broadcastInDim S2048x1 ![0] bcast_S2048_S2048x1_0 : (⟨S2048, .f32⟩ : BufTy).Contents (Elt F) → (⟨S2048x1, .f32⟩ : BufTy).Contents (Elt F)),
    StableHlo.unary main_v1496 main_v1497 (broadcastInDim S2048x2048 ![0, 1] bcast_S2048x1_S2048x2048_0_1 : (⟨S2048x1, .f32⟩ : BufTy).Contents (Elt F) → (⟨S2048x2048, .f32⟩ : BufTy).Contents (Elt F)),
    StableHlo.binary main_v1492 main_v1497 main_v1498 (subf : (⟨S2048x2048, .f32⟩ : BufTy).Contents (Elt F) → (⟨S2048x2048, .f32⟩ : BufTy).Contents (Elt F) → (⟨S2048x2048, .f32⟩ : BufTy).Contents (Elt F)),
    StableHlo.unary main_v1498 main_v1499 (Host.exp : (⟨S2048x2048, .f32⟩ : BufTy).Contents (Elt F) → (⟨S2048x2048, .f32⟩ : BufTy).Contents (Elt F)),
    StableHlo.nullary main_cst_322 (constant S_ .f32 0x00000000#32),
    StableHlo.binary main_v1499 main_cst_322 main_v1500 ((fun x v => Host.reduceAdd x v reducesTo_S2048x2048_S2048_d1 h_S_) : (⟨S2048x2048, .f32⟩ : BufTy).Contents (Elt F) → (⟨S_, .f32⟩ : BufTy).Contents (Elt F) → (⟨S2048, .f32⟩ : BufTy).Contents (Elt F)),
    StableHlo.unary main_v1500 main_v1501 (broadcastInDim S2048x1 ![0] bcast_S2048_S2048x1_0 : (⟨S2048, .f32⟩ : BufTy).Contents (Elt F) → (⟨S2048x1, .f32⟩ : BufTy).Contents (Elt F)),
    StableHlo.unary main_v1501 main_v1502 (broadcastInDim S2048x2048 ![0, 1] bcast_S2048x1_S2048x2048_0_1 : (⟨S2048x1, .f32⟩ : BufTy).Contents (Elt F) → (⟨S2048x2048, .f32⟩ : BufTy).Contents (Elt F)),
    StableHlo.binary main_v1499 main_v1502 main_v1503 (Host.divf : (⟨S2048x2048, .f32⟩ : BufTy).Contents (Elt F) → (⟨S2048x2048, .f32⟩ : BufTy).Contents (Elt F) → (⟨S2048x2048, .f32⟩ : BufTy).Contents (Elt F)),
    StableHlo.unary main_v1503 main_v1504 ((transpose S2048x2048 [1, 0] · transposes_S2048x2048_S2048x2048_1_0) : (⟨S2048x2048, .f32⟩ : BufTy).Contents (Elt F) → (⟨S2048x2048, .f32⟩ : BufTy).Contents (Elt F)),
    StableHlo.binary main_v1504 main_v1464 main_v1505 ((fun l r => Host.dotGeneral dot_S2048x2048_S2048x8_S2048x8_1_0_0_1_n_n none l r) : (⟨S2048x2048, .f32⟩ : BufTy).Contents (Elt F) → (⟨S2048x8, .f32⟩ : BufTy).Contents (Elt F) → (⟨S2048x8, .f32⟩ : BufTy).Contents (Elt F)),
    StableHlo.TRef.nullary main_call69.cst (constant S_ .f32 0x00000000#32),
    StableHlo.TRef.unary main_call69.cst main_call69.v0 (broadcastInDim S2048x8 ![] bcast_S_S2048x8),
    StableHlo.TRef.binary (StableHlo.TRef.of (T := ⟨S2048x8, .f32⟩) main_v1505) main_call69.v0 main_call69.v1 (cmpf .ogt),
    StableHlo.TRef.nullary main_call69.cst_0 (constant S_ .f32 0x00000000#32),
    StableHlo.TRef.unary main_call69.cst_0 main_call69.v2 (broadcastInDim S2048x8 ![] bcast_S_S2048x8),
    StableHlo.TRef.binary (StableHlo.TRef.of (T := ⟨S2048x8, .f32⟩) main_v1505) main_call69.v2 main_call69.v3 (cmpf .ogt),
    StableHlo.TRef.nullary main_call69.cst_1 (constant S_ .f32 0x00000000#32),
    StableHlo.TRef.unary main_call69.cst_1 main_call69.call0.v0 id,
    StableHlo.TRef.unary main_call69.call0.v0 main_call69.call0.v1 (broadcastInDim S2048x8 ![] bcast_S_S2048x8),
    StableHlo.TRef.ternary main_call69.v3 main_call69.call0.v1 (StableHlo.TRef.of (T := ⟨S2048x8, .f32⟩) main_v1505) main_call69.call0.v2 select,
    StableHlo.TRef.unary main_call69.call0.v2 main_call69.v5 Host.expm1,
    StableHlo.TRef.nullary main_call69.cst_2 (constant S_ .f32 0x3F800000#32),
    StableHlo.TRef.unary main_call69.cst_2 main_call69.v6 (broadcastInDim S2048x8 ![] bcast_S_S2048x8),
    StableHlo.TRef.binary main_call69.v6 main_call69.v5 main_call69.v7 mulf,
    StableHlo.TRef.ternary main_call69.v1 (StableHlo.TRef.of (T := ⟨S2048x8, .f32⟩) main_v1505) main_call69.v7 main_call69.call1.v0 select,
    StableHlo.unary main_v1258 main_v1507 ((extractStridedSlice S16x1 ![0, 2] · slices_S16x8_S16x1_0_2) : (⟨S16x8, .f32⟩ : BufTy).Contents (Elt F) → (⟨S16x1, .f32⟩ : BufTy).Contents (Elt F)),
    StableHlo.unary main_v1258 main_v1508 ((extractStridedSlice S16x1 ![0, 6] · slices_S16x8_S16x1_0_6) : (⟨S16x8, .f32⟩ : BufTy).Contents (Elt F) → (⟨S16x1, .f32⟩ : BufTy).Contents (Elt F)),
    StableHlo.unary main_arg4 main_v1509 ((extractStridedSlice S1x256x8 ![2, 0, 0] · slices_S4x256x8_S1x256x8_2_0_0) : (⟨S4x256x8, .f32⟩ : BufTy).Contents (Elt F) → (⟨S1x256x8, .f32⟩ : BufTy).Contents (Elt F)),
    StableHlo.reshape main_v1509 main_v1510 rfl shapeCasts_S1x256x8_S256x8,
    StableHlo.binary main_v144 main_v144 main_v1511 (mulf : (⟨S2048x256, .f32⟩ : BufTy).Contents (Elt F) → (⟨S2048x256, .f32⟩ : BufTy).Contents (Elt F) → (⟨S2048x256, .f32⟩ : BufTy).Contents (Elt F)),
    StableHlo.nullary main_cst_323 (constant S_ .f32 0x00000000#32),
    StableHlo.binary main_v1511 main_cst_323 main_v1512 ((fun x v => Host.reduceAdd x v reducesTo_S2048x256_S2048_d1 h_S_) : (⟨S2048x256, .f32⟩ : BufTy).Contents (Elt F) → (⟨S_, .f32⟩ : BufTy).Contents (Elt F) → (⟨S2048, .f32⟩ : BufTy).Contents (Elt F)),
    StableHlo.unary main_v1512 main_v1513 (Host.sqrt : (⟨S2048, .f32⟩ : BufTy).Contents (Elt F) → (⟨S2048, .f32⟩ : BufTy).Contents (Elt F)),
    StableHlo.unary main_v144 main_v1514 ((transpose S256x2048 [1, 0] · transposes_S2048x256_S256x2048_1_0) : (⟨S2048x256, .f32⟩ : BufTy).Contents (Elt F) → (⟨S256x2048, .f32⟩ : BufTy).Contents (Elt F)),
    StableHlo.binary main_v144 main_v1514 main_v1515 ((fun l r => Host.dotGeneral dot_S2048x256_S256x2048_S2048x2048_1_0_0_1_n_n none l r) : (⟨S2048x256, .f32⟩ : BufTy).Contents (Elt F) → (⟨S256x2048, .f32⟩ : BufTy).Contents (Elt F) → (⟨S2048x2048, .f32⟩ : BufTy).Contents (Elt F)),
    StableHlo.unary main_v1513 main_v1516 (broadcastInDim S2048x1 ![0] bcast_S2048_S2048x1_0 : (⟨S2048, .f32⟩ : BufTy).Contents (Elt F) → (⟨S2048x1, .f32⟩ : BufTy).Contents (Elt F)),
    StableHlo.unary main_v1513 main_v1517 (broadcastInDim S1x2048 ![1] bcast_S2048_S1x2048_1 : (⟨S2048, .f32⟩ : BufTy).Contents (Elt F) → (⟨S1x2048, .f32⟩ : BufTy).Contents (Elt F)),
    StableHlo.unary main_v1516 main_v1518 (broadcastInDim S2048x2048 ![0, 1] bcast_S2048x1_S2048x2048_0_1 : (⟨S2048x1, .f32⟩ : BufTy).Contents (Elt F) → (⟨S2048x2048, .f32⟩ : BufTy).Contents (Elt F)),
    StableHlo.unary main_v1517 main_v1519 (broadcastInDim S2048x2048 ![0, 1] bcast_S1x2048_S2048x2048_0_1 : (⟨S1x2048, .f32⟩ : BufTy).Contents (Elt F) → (⟨S2048x2048, .f32⟩ : BufTy).Contents (Elt F)),
    StableHlo.binary main_v1518 main_v1519 main_v1520 (mulf : (⟨S2048x2048, .f32⟩ : BufTy).Contents (Elt F) → (⟨S2048x2048, .f32⟩ : BufTy).Contents (Elt F) → (⟨S2048x2048, .f32⟩ : BufTy).Contents (Elt F)),
    StableHlo.binary main_v1515 main_v1520 main_v1521 (Host.divf : (⟨S2048x2048, .f32⟩ : BufTy).Contents (Elt F) → (⟨S2048x2048, .f32⟩ : BufTy).Contents (Elt F) → (⟨S2048x2048, .f32⟩ : BufTy).Contents (Elt F)),
    StableHlo.nullary main_v1522 (iotaInDim S2048x2048 32 0),
    StableHlo.nullary main_v1523 (iotaInDim S2048x2048 32 1),
    StableHlo.nullary main_c_324 (constantI S_ 32 0#32),
    StableHlo.unary main_c_324 main_v1524 (broadcastInDim S2048x2048 ![] bcast_S_S2048x2048 : (⟨S_, .i32⟩ : BufTy).Contents (Elt F) → (⟨S2048x2048, .i32⟩ : BufTy).Contents (Elt F)),
    StableHlo.binary main_v1522 main_v1524 main_v1525 (addi : (⟨S2048x2048, .i32⟩ : BufTy).Contents (Elt F) → (⟨S2048x2048, .i32⟩ : BufTy).Contents (Elt F) → (⟨S2048x2048, .i32⟩ : BufTy).Contents (Elt F)),
    StableHlo.binary main_v1525 main_v1523 main_v1526 (cmpi .eq : (⟨S2048x2048, .i32⟩ : BufTy).Contents (Elt F) → (⟨S2048x2048, .i32⟩ : BufTy).Contents (Elt F) → (⟨S2048x2048, .i1⟩ : BufTy).Contents (Elt F)),
    StableHlo.unary main_v1526 main_v1527 (uitofp .f32 : (⟨S2048x2048, .i1⟩ : BufTy).Contents (Elt F) → (⟨S2048x2048, .f32⟩ : BufTy).Contents (Elt F)),
    StableHlo.nullary main_cst_325 (constant S_ .f32 0x3F800000#32),
    StableHlo.unary main_cst_325 main_v1528 (broadcastInDim S2048x2048 ![] bcast_S_S2048x2048 : (⟨S_, .f32⟩ : BufTy).Contents (Elt F) → (⟨S2048x2048, .f32⟩ : BufTy).Contents (Elt F)),
    StableHlo.binary main_v1528 main_v1527 main_v1529 (subf : (⟨S2048x2048, .f32⟩ : BufTy).Contents (Elt F) → (⟨S2048x2048, .f32⟩ : BufTy).Contents (Elt F) → (⟨S2048x2048, .f32⟩ : BufTy).Contents (Elt F)),
    StableHlo.nullary main_cst_326 (constant S_ .f32 0x3F000000#32),
    StableHlo.unary main_cst_326 main_v1530 (broadcastInDim S2048x2048 ![] bcast_S_S2048x2048 : (⟨S_, .f32⟩ : BufTy).Contents (Elt F) → (⟨S2048x2048, .f32⟩ : BufTy).Contents (Elt F)) ]

set_option maxRecDepth 16384 in
set_option maxHeartbeats 4000000 in
/-- The window is that line: the called functions unfold at their calls and sequencing re-associates. -/
theorem main_part30_eq (c : Dev nD) : main_part30 (F := F) c = StableHlo.seq ops_part30 := rfl

set_option maxRecDepth 16384 in
set_option maxHeartbeats 4000000 in
/-- Every operation of the window is good; the result's index is compared by computation. -/
theorem ops_part30_good : (ops_part30 : List (HloOp τ sig (Elt F))).Forall (Good 12) :=
  ⟨binary_good (h := by decide) .., binary_good (h := by decide) .., unary_good (h := by decide) .., binary_good (h := by decide) ..,
    nullary_good (h := by decide) .., binary_good (h := by decide) .., unary_good (h := by decide) .., binary_good (h := by decide) ..,
    nullary_good (h := by decide) .., unary_good (h := by decide) .., binary_good (h := by decide) .., unary_good (h := by decide) ..,
    binary_good (h := by decide) .., nullary_good (h := by decide) .., unary_good (h := by decide) .., unary_good (h := by decide) ..,
    ternary_good (h := by decide) .., nullary_good (h := by decide) .., binary_good (h := by decide) .., nullary_good (h := by decide) ..,
    unary_good (h := by decide) .., binary_good (h := by decide) .., unary_good (h := by decide) .., unary_good (h := by decide) ..,
    binary_good (h := by decide) .., unary_good (h := by decide) .., nullary_good (h := by decide) .., binary_good (h := by decide) ..,
    unary_good (h := by decide) .., unary_good (h := by decide) .., binary_good (h := by decide) .., unary_good (h := by decide) ..,
    binary_good (h := by decide) .., nullary_good (h := by decide) .., unary_good (h := by decide) .., binary_good (h := by decide) ..,
    nullary_good (h := by decide) .., unary_good (h := by decide) .., binary_good (h := by decide) .., nullary_good (h := by decide) ..,
    unary_good (h := by decide) .., unary_good (h := by decide) .., ternary_good (h := by decide) .., unary_good (h := by decide) ..,
    nullary_good (h := by decide) .., unary_good (h := by decide) .., binary_good (h := by decide) .., ternary_good (h := by decide) ..,
    unary_good (h := by decide) .., unary_good (h := by decide) .., unary_good (h := by decide) .., reshape_good (h := by decide) ..,
    binary_good (h := by decide) .., nullary_good (h := by decide) .., binary_good (h := by decide) .., unary_good (h := by decide) ..,
    unary_good (h := by decide) .., binary_good (h := by decide) .., unary_good (h := by decide) .., unary_good (h := by decide) ..,
    unary_good (h := by decide) .., unary_good (h := by decide) .., binary_good (h := by decide) .., binary_good (h := by decide) ..,
    nullary_good (h := by decide) .., nullary_good (h := by decide) .., nullary_good (h := by decide) .., unary_good (h := by decide) ..,
    binary_good (h := by decide) .., binary_good (h := by decide) .., unary_good (h := by decide) .., nullary_good (h := by decide) ..,
    unary_good (h := by decide) .., binary_good (h := by decide) .., nullary_good (h := by decide) .., unary_good (h := by decide) ..⟩

end Cert.ReferenceIdeal.Hand

end
-- ==== Proof.Ref.W31.lean ====
import proofs.«146970_j35948876268088_1_alg».proof.ReferenceIdeal.P06
import proofs.«146970_j35948876268088_1_alg».proof.Proof.Ref.Keep

noncomputable section

namespace Cert.ReferenceIdeal.Hand

open Cert.ReferenceIdeal Idealize.ShloMosaic Idealize.ShloMosaic.TcCoe Idealize.SL.Sem Idealize.ShloMosaic.StableHlo

variable {F : FTy → Type} [FloatOps F]

variable [Facts]
open Facts₀ Facts

set_option maxHeartbeats 4000000 in
/-- The operations of window 31, in order; a called function's operations stand in its call's place. -/
abbrev ops_part31 : List (HloOp τ sig (Elt F)) :=
  [ StableHlo.binary main_v1521 main_v1530 main_v1531 (cmpf .ogt : (⟨S2048x2048, .f32⟩ : BufTy).Contents (Elt F) → (⟨S2048x2048, .f32⟩ : BufTy).Contents (Elt F) → (⟨S2048x2048, .i1⟩ : BufTy).Contents (Elt F)),
    StableHlo.nullary main_cst_327 (constant S_ .f32 0x00000000#32),
    StableHlo.TRef.unary (StableHlo.TRef.of (T := ⟨S_, .f32⟩) main_cst_327) main_call70.v0 id,
    StableHlo.TRef.unary main_call70.v0 main_call70.v1 (broadcastInDim S2048x2048 ![] bcast_S_S2048x2048),
    StableHlo.TRef.ternary (StableHlo.TRef.of (T := ⟨S2048x2048, .i1⟩) main_v1531) (StableHlo.TRef.of (T := ⟨S2048x2048, .f32⟩) main_v1521) main_call70.v1 main_call70.v2 select,
    StableHlo.binary main_v1532 main_v1529 main_v1533 (mulf : (⟨S2048x2048, .f32⟩ : BufTy).Contents (Elt F) → (⟨S2048x2048, .f32⟩ : BufTy).Contents (Elt F) → (⟨S2048x2048, .f32⟩ : BufTy).Contents (Elt F)),
    StableHlo.unary main_v122 main_v1534 ((transpose S2048x2048 [1, 0] · transposes_S2048x2048_S2048x2048_1_0) : (⟨S2048x2048, .f32⟩ : BufTy).Contents (Elt F) → (⟨S2048x2048, .f32⟩ : BufTy).Contents (Elt F)),
    StableHlo.binary main_v122 main_v1534 main_v1535 ((fun l r => Host.dotGeneral dot_S2048x2048_S2048x2048_S2048x2048_1_0_0_1_n_n none l r) : (⟨S2048x2048, .f32⟩ : BufTy).Contents (Elt F) → (⟨S2048x2048, .f32⟩ : BufTy).Contents (Elt F) → (⟨S2048x2048, .f32⟩ : BufTy).Contents (Elt F)),
    StableHlo.nullary main_cst_328 (constant S_ .f32 0x00000000#32),
    StableHlo.unary main_cst_328 main_v1536 (broadcastInDim S2048x2048 ![] bcast_S_S2048x2048 : (⟨S_, .f32⟩ : BufTy).Contents (Elt F) → (⟨S2048x2048, .f32⟩ : BufTy).Contents (Elt F)),
    StableHlo.binary main_v1535 main_v1536 main_v1537 (cmpf .ogt : (⟨S2048x2048, .f32⟩ : BufTy).Contents (Elt F) → (⟨S2048x2048, .f32⟩ : BufTy).Contents (Elt F) → (⟨S2048x2048, .i1⟩ : BufTy).Contents (Elt F)),
    StableHlo.unary main_v1537 main_v1538 (uitofp .f32 : (⟨S2048x2048, .i1⟩ : BufTy).Contents (Elt F) → (⟨S2048x2048, .f32⟩ : BufTy).Contents (Elt F)),
    StableHlo.binary main_v1538 main_v1529 main_v1539 (mulf : (⟨S2048x2048, .f32⟩ : BufTy).Contents (Elt F) → (⟨S2048x2048, .f32⟩ : BufTy).Contents (Elt F) → (⟨S2048x2048, .f32⟩ : BufTy).Contents (Elt F)),
    StableHlo.binary main_v1533 main_v1539 main_v1540 (mulf : (⟨S2048x2048, .f32⟩ : BufTy).Contents (Elt F) → (⟨S2048x2048, .f32⟩ : BufTy).Contents (Elt F) → (⟨S2048x2048, .f32⟩ : BufTy).Contents (Elt F)),
    StableHlo.nullary main_cst_329 (constant S_ .f32 0x00000000#32),
    StableHlo.binary main_v1540 main_cst_329 main_v1541 ((fun x v => Host.reduceAdd x v reducesTo_S2048x2048_S2048_d1 h_S_) : (⟨S2048x2048, .f32⟩ : BufTy).Contents (Elt F) → (⟨S_, .f32⟩ : BufTy).Contents (Elt F) → (⟨S2048, .f32⟩ : BufTy).Contents (Elt F)),
    StableHlo.unary main_v1541 main_v1542 (broadcastInDim S2048x1 ![0] bcast_S2048_S2048x1_0 : (⟨S2048, .f32⟩ : BufTy).Contents (Elt F) → (⟨S2048x1, .f32⟩ : BufTy).Contents (Elt F)),
    StableHlo.unary main_v1542 main_v1543 (broadcastInDim S2048x2048 ![0, 1] bcast_S2048x1_S2048x2048_0_1 : (⟨S2048x1, .f32⟩ : BufTy).Contents (Elt F) → (⟨S2048x2048, .f32⟩ : BufTy).Contents (Elt F)),
    StableHlo.binary main_v122 main_v1543 main_v1544 (mulf : (⟨S2048x2048, .f32⟩ : BufTy).Contents (Elt F) → (⟨S2048x2048, .f32⟩ : BufTy).Contents (Elt F) → (⟨S2048x2048, .f32⟩ : BufTy).Contents (Elt F)),
    StableHlo.nullary main_cst_330 (constant S_ .f32 0x00000000#32),
    StableHlo.binary main_v1544 main_cst_330 main_v1545 ((fun x v => Host.reduceAdd x v reducesTo_S2048x2048_S2048_d0 h_S_) : (⟨S2048x2048, .f32⟩ : BufTy).Contents (Elt F) → (⟨S_, .f32⟩ : BufTy).Contents (Elt F) → (⟨S2048, .f32⟩ : BufTy).Contents (Elt F)),
    StableHlo.unary main_v1545 main_v1546 (broadcastInDim S2048x1 ![0] bcast_S2048_S2048x1_0 : (⟨S2048, .f32⟩ : BufTy).Contents (Elt F) → (⟨S2048x1, .f32⟩ : BufTy).Contents (Elt F)),
    StableHlo.binary main_v144 main_v1510 main_v1547 ((fun l r => Host.dotGeneral dot_S2048x256_S256x8_S2048x8_1_0_0_1_n_n none l r) : (⟨S2048x256, .f32⟩ : BufTy).Contents (Elt F) → (⟨S256x8, .f32⟩ : BufTy).Contents (Elt F) → (⟨S2048x8, .f32⟩ : BufTy).Contents (Elt F)),
    StableHlo.binary main_v144 main_v1510 main_v1548 ((fun l r => Host.dotGeneral dot_S2048x256_S256x8_S2048x8_1_0_0_1_n_n none l r) : (⟨S2048x256, .f32⟩ : BufTy).Contents (Elt F) → (⟨S256x8, .f32⟩ : BufTy).Contents (Elt F) → (⟨S2048x8, .f32⟩ : BufTy).Contents (Elt F)),
    StableHlo.binary main_v137 main_v1510 main_v1549 ((fun l r => Host.dotGeneral dot_S2048x256_S256x8_S2048x8_1_0_0_1_n_n none l r) : (⟨S2048x256, .f32⟩ : BufTy).Contents (Elt F) → (⟨S256x8, .f32⟩ : BufTy).Contents (Elt F) → (⟨S2048x8, .f32⟩ : BufTy).Contents (Elt F)),
    StableHlo.unary main_v1507 main_v1550 ((extractStridedSlice S8x1 ![0, 0] · slices_S16x1_S8x1_0_0) : (⟨S16x1, .f32⟩ : BufTy).Contents (Elt F) → (⟨S8x1, .f32⟩ : BufTy).Contents (Elt F)),
    StableHlo.binary main_v1548 main_v1550 main_v1551 ((fun l r => Host.dotGeneral dot_S2048x8_S8x1_S2048x1_1_0_0_1_n_n none l r) : (⟨S2048x8, .f32⟩ : BufTy).Contents (Elt F) → (⟨S8x1, .f32⟩ : BufTy).Contents (Elt F) → (⟨S2048x1, .f32⟩ : BufTy).Contents (Elt F)),
    StableHlo.unary main_v1507 main_v1552 ((extractStridedSlice S8x1 ![8, 0] · slices_S16x1_S8x1_8_0) : (⟨S16x1, .f32⟩ : BufTy).Contents (Elt F) → (⟨S8x1, .f32⟩ : BufTy).Contents (Elt F)),
    StableHlo.binary main_v1549 main_v1552 main_v1553 ((fun l r => Host.dotGeneral dot_S2048x8_S8x1_S2048x1_1_0_0_1_n_n none l r) : (⟨S2048x8, .f32⟩ : BufTy).Contents (Elt F) → (⟨S8x1, .f32⟩ : BufTy).Contents (Elt F) → (⟨S2048x1, .f32⟩ : BufTy).Contents (Elt F)),
    StableHlo.unary main_v1553 main_v1554 ((transpose S1x2048 [1, 0] · transposes_S2048x1_S1x2048_1_0) : (⟨S2048x1, .f32⟩ : BufTy).Contents (Elt F) → (⟨S1x2048, .f32⟩ : BufTy).Contents (Elt F)),
    StableHlo.unary main_v1551 main_v1555 (broadcastInDim S2048x2048 ![0, 1] bcast_S2048x1_S2048x2048_0_1 : (⟨S2048x1, .f32⟩ : BufTy).Contents (Elt F) → (⟨S2048x2048, .f32⟩ : BufTy).Contents (Elt F)),
    StableHlo.unary main_v1554 main_v1556 (broadcastInDim S2048x2048 ![0, 1] bcast_S1x2048_S2048x2048_0_1 : (⟨S1x2048, .f32⟩ : BufTy).Contents (Elt F) → (⟨S2048x2048, .f32⟩ : BufTy).Contents (Elt F)),
    StableHlo.binary main_v1555 main_v1556 main_v1557 (addf : (⟨S2048x2048, .f32⟩ : BufTy).Contents (Elt F) → (⟨S2048x2048, .f32⟩ : BufTy).Contents (Elt F) → (⟨S2048x2048, .f32⟩ : BufTy).Contents (Elt F)),
    StableHlo.nullary main_cst_331 (constant S_ .f32 0x3E4CCCCD#32),
    StableHlo.TRef.nullary main_call71.cst (constant S_ .f32 0x00000000#32),
    StableHlo.TRef.unary main_call71.cst main_call71.v0 (broadcastInDim S2048x2048 ![] bcast_S_S2048x2048),
    StableHlo.TRef.binary (StableHlo.TRef.of (T := ⟨S2048x2048, .f32⟩) main_v1557) main_call71.v0 main_call71.v1 (cmpf .oge),
    StableHlo.TRef.unary (StableHlo.TRef.of (T := ⟨S_, .f32⟩) main_cst_331) main_call71.v2 id,
    StableHlo.TRef.unary main_call71.v2 main_call71.v3 (broadcastInDim S2048x2048 ![] bcast_S_S2048x2048),
    StableHlo.TRef.binary main_call71.v3 (StableHlo.TRef.of (T := ⟨S2048x2048, .f32⟩) main_v1557) main_call71.v4 mulf,
    StableHlo.TRef.ternary main_call71.v1 (StableHlo.TRef.of (T := ⟨S2048x2048, .f32⟩) main_v1557) main_call71.v4 main_call71.call0.v0 select,
    StableHlo.nullary main_cst_332 (constant S_ .f32 0x7F800000#32),
    StableHlo.binary main_v1542 main_cst_332 main_v1559 ((fun x v => Host.reduce FloatOps.minimumf x v reducesTo_S2048x1_S_d0_1 h_S_) : (⟨S2048x1, .f32⟩ : BufTy).Contents (Elt F) → (⟨S_, .f32⟩ : BufTy).Contents (Elt F) → (⟨S_, .f32⟩ : BufTy).Contents (Elt F)),
    StableHlo.unary main_v1559 main_v1560 (broadcastInDim S2048x1 ![] bcast_S_S2048x1 : (⟨S_, .f32⟩ : BufTy).Contents (Elt F) → (⟨S2048x1, .f32⟩ : BufTy).Contents (Elt F)),
    StableHlo.binary main_v1542 main_v1560 main_v1561 (subf : (⟨S2048x1, .f32⟩ : BufTy).Contents (Elt F) → (⟨S2048x1, .f32⟩ : BufTy).Contents (Elt F) → (⟨S2048x1, .f32⟩ : BufTy).Contents (Elt F)),
    StableHlo.nullary main_cst_333 (constant S_ .f32 0xFF800000#32),
    StableHlo.binary main_v1542 main_cst_333 main_v1562 ((fun x v => Host.reduce FloatOps.maximumf x v reducesTo_S2048x1_S_d0_1 h_S_) : (⟨S2048x1, .f32⟩ : BufTy).Contents (Elt F) → (⟨S_, .f32⟩ : BufTy).Contents (Elt F) → (⟨S_, .f32⟩ : BufTy).Contents (Elt F)),
    StableHlo.nullary main_cst_334 (constant S_ .f32 0x7F800000#32),
    StableHlo.binary main_v1542 main_cst_334 main_v1563 ((fun x v => Host.reduce FloatOps.minimumf x v reducesTo_S2048x1_S_d0_1 h_S_) : (⟨S2048x1, .f32⟩ : BufTy).Contents (Elt F) → (⟨S_, .f32⟩ : BufTy).Contents (Elt F) → (⟨S_, .f32⟩ : BufTy).Contents (Elt F)),
    StableHlo.binary main_v1562 main_v1563 main_v1564 (subf : (⟨S_, .f32⟩ : BufTy).Contents (Elt F) → (⟨S_, .f32⟩ : BufTy).Contents (Elt F) → (⟨S_, .f32⟩ : BufTy).Contents (Elt F)),
    StableHlo.unary main_v1564 main_v1565 (broadcastInDim S2048x1 ![] bcast_S_S2048x1 : (⟨S_, .f32⟩ : BufTy).Contents (Elt F) → (⟨S2048x1, .f32⟩ : BufTy).Contents (Elt F)),
    StableHlo.binary main_v1561 main_v1565 main_v1566 (Host.divf : (⟨S2048x1, .f32⟩ : BufTy).Contents (Elt F) → (⟨S2048x1, .f32⟩ : BufTy).Contents (Elt F) → (⟨S2048x1, .f32⟩ : BufTy).Contents (Elt F)),
    StableHlo.nullary main_cst_335 (constant S_ .f32 0xFF800000#32),
    StableHlo.binary main_v1558 main_cst_335 main_v1567 ((fun x v => Host.reduce FloatOps.maximumf x v reducesTo_S2048x2048_S_d0_1 h_S_) : (⟨S2048x2048, .f32⟩ : BufTy).Contents (Elt F) → (⟨S_, .f32⟩ : BufTy).Contents (Elt F) → (⟨S_, .f32⟩ : BufTy).Contents (Elt F)),
    StableHlo.unary main_v1567 main_v1568 (broadcastInDim S2048x1 ![] bcast_S_S2048x1 : (⟨S_, .f32⟩ : BufTy).Contents (Elt F) → (⟨S2048x1, .f32⟩ : BufTy).Contents (Elt F)),
    StableHlo.binary main_v1566 main_v1568 main_v1569 (mulf : (⟨S2048x1, .f32⟩ : BufTy).Contents (Elt F) → (⟨S2048x1, .f32⟩ : BufTy).Contents (Elt F) → (⟨S2048x1, .f32⟩ : BufTy).Contents (Elt F)),
    StableHlo.nullary main_cst_336 (constant S_ .f32 0x00000000#32),
    StableHlo.unary main_cst_336 main_v1570 (broadcastInDim S2048x2048 ![] bcast_S_S2048x2048 : (⟨S_, .f32⟩ : BufTy).Contents (Elt F) → (⟨S2048x2048, .f32⟩ : BufTy).Contents (Elt F)),
    StableHlo.binary main_v122 main_v1570 main_v1571 (cmpf .ogt : (⟨S2048x2048, .f32⟩ : BufTy).Contents (Elt F) → (⟨S2048x2048, .f32⟩ : BufTy).Contents (Elt F) → (⟨S2048x2048, .i1⟩ : BufTy).Contents (Elt F)),
    StableHlo.unary main_v1569 main_v1572 (broadcastInDim S2048x2048 ![0, 1] bcast_S2048x1_S2048x2048_0_1 : (⟨S2048x1, .f32⟩ : BufTy).Contents (Elt F) → (⟨S2048x2048, .f32⟩ : BufTy).Contents (Elt F)),
    StableHlo.binary main_v1558 main_v1572 main_v1573 (addf : (⟨S2048x2048, .f32⟩ : BufTy).Contents (Elt F) → (⟨S2048x2048, .f32⟩ : BufTy).Contents (Elt F) → (⟨S2048x2048, .f32⟩ : BufTy).Contents (Elt F)),
    StableHlo.nullary main_cst_337 (constant S_ .f32 0xD368D4A5#32),
    StableHlo.TRef.unary (StableHlo.TRef.of (T := ⟨S_, .f32⟩) main_cst_337) main_call72.v0 id,
    StableHlo.TRef.unary main_call72.v0 main_call72.v1 (broadcastInDim S2048x2048 ![] bcast_S_S2048x2048),
    StableHlo.TRef.ternary (StableHlo.TRef.of (T := ⟨S2048x2048, .i1⟩) main_v1571) (StableHlo.TRef.of (T := ⟨S2048x2048, .f32⟩) main_v1573) main_call72.v1 main_call72.v2 select,
    StableHlo.nullary main_cst_338 (constant S_ .f32 0xFF800000#32),
    StableHlo.binary main_v1574 main_cst_338 main_v1575 ((fun x v => Host.reduce FloatOps.maximumf x v reducesTo_S2048x2048_S2048_d1 h_S_) : (⟨S2048x2048, .f32⟩ : BufTy).Contents (Elt F) → (⟨S_, .f32⟩ : BufTy).Contents (Elt F) → (⟨S2048, .f32⟩ : BufTy).Contents (Elt F)),
    StableHlo.nullary main_cst_339 (constant S_ .f32 0xFF800000#32),
    StableHlo.unary main_cst_339 main_v1576 (broadcastInDim S2048 ![] bcast_S_S2048 : (⟨S_, .f32⟩ : BufTy).Contents (Elt F) → (⟨S2048, .f32⟩ : BufTy).Contents (Elt F)),
    StableHlo.binary main_v1576 main_v1575 main_v1577 (maximumf : (⟨S2048, .f32⟩ : BufTy).Contents (Elt F) → (⟨S2048, .f32⟩ : BufTy).Contents (Elt F) → (⟨S2048, .f32⟩ : BufTy).Contents (Elt F)) ]

set_option maxRecDepth 16384 in
set_option maxHeartbeats 4000000 in
/-- The window is that line: the called functions unfold at their calls and sequencing re-associates. -/
theorem main_part31_eq (c : Dev nD) : main_part31 (F := F) c = StableHlo.seq ops_part31 := rfl

set_option maxRecDepth 16384 in
set_option maxHeartbeats 4000000 in
/-- Every operation of the window is good; the result's index is compared by computation. -/
theorem ops_part31_good : (ops_part31 : List (HloOp τ sig (Elt F))).Forall (Good 12) :=
  ⟨binary_good (h := by decide) .., nullary_good (h := by decide) .., unary_good (h := by decide) .., unary_good (h := by decide) ..,
    ternary_good (h := by decide) .., binary_good (h := by decide) .., unary_good (h := by decide) .., binary_good (h := by decide) ..,
    nullary_good (h := by decide) .., unary_good (h := by decide) .., binary_good (h := by decide) .., unary_good (h := by decide) ..,
    binary_good (h := by decide) .., binary_good (h := by decide) .., nullary_good (h := by decide) .., binary_good (h := by decide) ..,
    unary_good (h := by decide) .., unary_good (h := by decide) .., binary_good (h := by decide) .., nullary_good (h := by decide) ..,
    binary_good (h := by decide) .., unary_good (h := by decide) .., binary_good (h := by decide) .., binary_good (h := by decide) ..,
    binary_good (h := by decide) .., unary_good (h := by decide) .., binary_good (h := by decide) .., unary_good (h := by decide) ..,
    binary_good (h := by decide) .., unary_good (h := by decide) .., unary_good (h := by decide) .., unary_good (h := by decide) ..,
    binary_good (h := by decide) .., nullary_good (h := by decide) .., nullary_good (h := by decide) .., unary_good (h := by decide) ..,
    binary_good (h := by decide) .., unary_good (h := by decide) .., unary_good (h := by decide) .., binary_good (h := by decide) ..,
    ternary_good (h := by decide) .., nullary_good (h := by decide) .., binary_good (h := by decide) .., unary_good (h := by decide) ..,
    binary_good (h := by decide) .., nullary_good (h := by decide) .., binary_good (h := by decide) .., nullary_good (h := by decide) ..,
    binary_good (h := by decide) .., binary_good (h := by decide) .., unary_good (h := by decide) .., binary_good (h := by decide) ..,
    nullary_good (h := by decide) .., binary_good (h := by decide) .., unary_good (h := by decide) .., binary_good (h := by decide) ..,
    nullary_good (h := by decide) .., unary_good (h := by decide) .., binary_good (h := by decide) .., unary_good (h := by decide) ..,
    binary_good (h := by decide) .., nullary_good (h := by decide) .., unary_good (h := by decide) .., unary_good (h := by decide) ..,
    ternary_good (h := by decide) .., nullary_good (h := by decide) .., binary_good (h := by decide) .., nullary_good (h := by decide) ..,
    unary_good (h := by decide) .., binary_good (h := by decide) ..⟩

end Cert.ReferenceIdeal.Hand

end
-- ==== Proof.Ref.W32.lean ====
import proofs.«146970_j35948876268088_1_alg».proof.ReferenceIdeal.P06
import proofs.«146970_j35948876268088_1_alg».proof.Proof.Ref.Keep

noncomputable section

namespace Cert.ReferenceIdeal.Hand

open Cert.ReferenceIdeal Idealize.ShloMosaic Idealize.ShloMosaic.TcCoe Idealize.SL.Sem Idealize.ShloMosaic.StableHlo

variable {F : FTy → Type} [FloatOps F]

variable [Facts]
open Facts₀ Facts

set_option maxHeartbeats 4000000 in
/-- The operations of window 32, in order; a called function's operations stand in its call's place. -/
abbrev ops_part32 : List (HloOp τ sig (Elt F)) :=
  [ StableHlo.unary main_v1577 main_v1578 (broadcastInDim S2048x1 ![0] bcast_S2048_S2048x1_0 : (⟨S2048, .f32⟩ : BufTy).Contents (Elt F) → (⟨S2048x1, .f32⟩ : BufTy).Contents (Elt F)),
    StableHlo.unary main_v1578 main_v1579 (broadcastInDim S2048x2048 ![0, 1] bcast_S2048x1_S2048x2048_0_1 : (⟨S2048x1, .f32⟩ : BufTy).Contents (Elt F) → (⟨S2048x2048, .f32⟩ : BufTy).Contents (Elt F)),
    StableHlo.binary main_v1574 main_v1579 main_v1580 (subf : (⟨S2048x2048, .f32⟩ : BufTy).Contents (Elt F) → (⟨S2048x2048, .f32⟩ : BufTy).Contents (Elt F) → (⟨S2048x2048, .f32⟩ : BufTy).Contents (Elt F)),
    StableHlo.unary main_v1580 main_v1581 (Host.exp : (⟨S2048x2048, .f32⟩ : BufTy).Contents (Elt F) → (⟨S2048x2048, .f32⟩ : BufTy).Contents (Elt F)),
    StableHlo.nullary main_cst_340 (constant S_ .f32 0x00000000#32),
    StableHlo.binary main_v1581 main_cst_340 main_v1582 ((fun x v => Host.reduceAdd x v reducesTo_S2048x2048_S2048_d1 h_S_) : (⟨S2048x2048, .f32⟩ : BufTy).Contents (Elt F) → (⟨S_, .f32⟩ : BufTy).Contents (Elt F) → (⟨S2048, .f32⟩ : BufTy).Contents (Elt F)),
    StableHlo.unary main_v1582 main_v1583 (broadcastInDim S2048x1 ![0] bcast_S2048_S2048x1_0 : (⟨S2048, .f32⟩ : BufTy).Contents (Elt F) → (⟨S2048x1, .f32⟩ : BufTy).Contents (Elt F)),
    StableHlo.unary main_v1583 main_v1584 (broadcastInDim S2048x2048 ![0, 1] bcast_S2048x1_S2048x2048_0_1 : (⟨S2048x1, .f32⟩ : BufTy).Contents (Elt F) → (⟨S2048x2048, .f32⟩ : BufTy).Contents (Elt F)),
    StableHlo.binary main_v1581 main_v1584 main_v1585 (Host.divf : (⟨S2048x2048, .f32⟩ : BufTy).Contents (Elt F) → (⟨S2048x2048, .f32⟩ : BufTy).Contents (Elt F) → (⟨S2048x2048, .f32⟩ : BufTy).Contents (Elt F)),
    StableHlo.unary main_v1585 main_v1586 ((transpose S2048x2048 [1, 0] · transposes_S2048x2048_S2048x2048_1_0) : (⟨S2048x2048, .f32⟩ : BufTy).Contents (Elt F) → (⟨S2048x2048, .f32⟩ : BufTy).Contents (Elt F)),
    StableHlo.binary main_v1586 main_v1547 main_v1587 ((fun l r => Host.dotGeneral dot_S2048x2048_S2048x8_S2048x8_1_0_0_1_n_n none l r) : (⟨S2048x2048, .f32⟩ : BufTy).Contents (Elt F) → (⟨S2048x8, .f32⟩ : BufTy).Contents (Elt F) → (⟨S2048x8, .f32⟩ : BufTy).Contents (Elt F)),
    StableHlo.TRef.nullary main_call73.cst (constant S_ .f32 0x00000000#32),
    StableHlo.TRef.unary main_call73.cst main_call73.v0 (broadcastInDim S2048x8 ![] bcast_S_S2048x8),
    StableHlo.TRef.binary (StableHlo.TRef.of (T := ⟨S2048x8, .f32⟩) main_v1587) main_call73.v0 main_call73.v1 (cmpf .ogt),
    StableHlo.TRef.nullary main_call73.cst_0 (constant S_ .f32 0x00000000#32),
    StableHlo.TRef.unary main_call73.cst_0 main_call73.v2 (broadcastInDim S2048x8 ![] bcast_S_S2048x8),
    StableHlo.TRef.binary (StableHlo.TRef.of (T := ⟨S2048x8, .f32⟩) main_v1587) main_call73.v2 main_call73.v3 (cmpf .ogt),
    StableHlo.TRef.nullary main_call73.cst_1 (constant S_ .f32 0x00000000#32),
    StableHlo.TRef.unary main_call73.cst_1 main_call73.call0.v0 id,
    StableHlo.TRef.unary main_call73.call0.v0 main_call73.call0.v1 (broadcastInDim S2048x8 ![] bcast_S_S2048x8),
    StableHlo.TRef.ternary main_call73.v3 main_call73.call0.v1 (StableHlo.TRef.of (T := ⟨S2048x8, .f32⟩) main_v1587) main_call73.call0.v2 select,
    StableHlo.TRef.unary main_call73.call0.v2 main_call73.v5 Host.expm1,
    StableHlo.TRef.nullary main_call73.cst_2 (constant S_ .f32 0x3F800000#32),
    StableHlo.TRef.unary main_call73.cst_2 main_call73.v6 (broadcastInDim S2048x8 ![] bcast_S_S2048x8),
    StableHlo.TRef.binary main_call73.v6 main_call73.v5 main_call73.v7 mulf,
    StableHlo.TRef.ternary main_call73.v1 (StableHlo.TRef.of (T := ⟨S2048x8, .f32⟩) main_v1587) main_call73.v7 main_call73.call1.v0 select,
    StableHlo.unary main_v122 main_v1589 ((transpose S2048x2048 [1, 0] · transposes_S2048x2048_S2048x2048_1_0) : (⟨S2048x2048, .f32⟩ : BufTy).Contents (Elt F) → (⟨S2048x2048, .f32⟩ : BufTy).Contents (Elt F)),
    StableHlo.binary main_v137 main_v1510 main_v1590 ((fun l r => Host.dotGeneral dot_S2048x256_S256x8_S2048x8_1_0_0_1_n_n none l r) : (⟨S2048x256, .f32⟩ : BufTy).Contents (Elt F) → (⟨S256x8, .f32⟩ : BufTy).Contents (Elt F) → (⟨S2048x8, .f32⟩ : BufTy).Contents (Elt F)),
    StableHlo.binary main_v144 main_v1510 main_v1591 ((fun l r => Host.dotGeneral dot_S2048x256_S256x8_S2048x8_1_0_0_1_n_n none l r) : (⟨S2048x256, .f32⟩ : BufTy).Contents (Elt F) → (⟨S256x8, .f32⟩ : BufTy).Contents (Elt F) → (⟨S2048x8, .f32⟩ : BufTy).Contents (Elt F)),
    StableHlo.unary main_v1508 main_v1592 ((extractStridedSlice S8x1 ![0, 0] · slices_S16x1_S8x1_0_0) : (⟨S16x1, .f32⟩ : BufTy).Contents (Elt F) → (⟨S8x1, .f32⟩ : BufTy).Contents (Elt F)),
    StableHlo.binary main_v1590 main_v1592 main_v1593 ((fun l r => Host.dotGeneral dot_S2048x8_S8x1_S2048x1_1_0_0_1_n_n none l r) : (⟨S2048x8, .f32⟩ : BufTy).Contents (Elt F) → (⟨S8x1, .f32⟩ : BufTy).Contents (Elt F) → (⟨S2048x1, .f32⟩ : BufTy).Contents (Elt F)),
    StableHlo.unary main_v1508 main_v1594 ((extractStridedSlice S8x1 ![8, 0] · slices_S16x1_S8x1_8_0) : (⟨S16x1, .f32⟩ : BufTy).Contents (Elt F) → (⟨S8x1, .f32⟩ : BufTy).Contents (Elt F)),
    StableHlo.binary main_v1591 main_v1594 main_v1595 ((fun l r => Host.dotGeneral dot_S2048x8_S8x1_S2048x1_1_0_0_1_n_n none l r) : (⟨S2048x8, .f32⟩ : BufTy).Contents (Elt F) → (⟨S8x1, .f32⟩ : BufTy).Contents (Elt F) → (⟨S2048x1, .f32⟩ : BufTy).Contents (Elt F)),
    StableHlo.unary main_v1595 main_v1596 ((transpose S1x2048 [1, 0] · transposes_S2048x1_S1x2048_1_0) : (⟨S2048x1, .f32⟩ : BufTy).Contents (Elt F) → (⟨S1x2048, .f32⟩ : BufTy).Contents (Elt F)),
    StableHlo.unary main_v1593 main_v1597 (broadcastInDim S2048x2048 ![0, 1] bcast_S2048x1_S2048x2048_0_1 : (⟨S2048x1, .f32⟩ : BufTy).Contents (Elt F) → (⟨S2048x2048, .f32⟩ : BufTy).Contents (Elt F)),
    StableHlo.unary main_v1596 main_v1598 (broadcastInDim S2048x2048 ![0, 1] bcast_S1x2048_S2048x2048_0_1 : (⟨S1x2048, .f32⟩ : BufTy).Contents (Elt F) → (⟨S2048x2048, .f32⟩ : BufTy).Contents (Elt F)),
    StableHlo.binary main_v1597 main_v1598 main_v1599 (addf : (⟨S2048x2048, .f32⟩ : BufTy).Contents (Elt F) → (⟨S2048x2048, .f32⟩ : BufTy).Contents (Elt F) → (⟨S2048x2048, .f32⟩ : BufTy).Contents (Elt F)),
    StableHlo.nullary main_cst_341 (constant S_ .f32 0x3E4CCCCD#32),
    StableHlo.TRef.nullary main_call74.cst (constant S_ .f32 0x00000000#32),
    StableHlo.TRef.unary main_call74.cst main_call74.v0 (broadcastInDim S2048x2048 ![] bcast_S_S2048x2048),
    StableHlo.TRef.binary (StableHlo.TRef.of (T := ⟨S2048x2048, .f32⟩) main_v1599) main_call74.v0 main_call74.v1 (cmpf .oge),
    StableHlo.TRef.unary (StableHlo.TRef.of (T := ⟨S_, .f32⟩) main_cst_341) main_call74.v2 id,
    StableHlo.TRef.unary main_call74.v2 main_call74.v3 (broadcastInDim S2048x2048 ![] bcast_S_S2048x2048),
    StableHlo.TRef.binary main_call74.v3 (StableHlo.TRef.of (T := ⟨S2048x2048, .f32⟩) main_v1599) main_call74.v4 mulf,
    StableHlo.TRef.ternary main_call74.v1 (StableHlo.TRef.of (T := ⟨S2048x2048, .f32⟩) main_v1599) main_call74.v4 main_call74.call0.v0 select,
    StableHlo.nullary main_cst_342 (constant S_ .f32 0x7F800000#32),
    StableHlo.binary main_v1546 main_cst_342 main_v1601 ((fun x v => Host.reduce FloatOps.minimumf x v reducesTo_S2048x1_S_d0_1 h_S_) : (⟨S2048x1, .f32⟩ : BufTy).Contents (Elt F) → (⟨S_, .f32⟩ : BufTy).Contents (Elt F) → (⟨S_, .f32⟩ : BufTy).Contents (Elt F)),
    StableHlo.unary main_v1601 main_v1602 (broadcastInDim S2048x1 ![] bcast_S_S2048x1 : (⟨S_, .f32⟩ : BufTy).Contents (Elt F) → (⟨S2048x1, .f32⟩ : BufTy).Contents (Elt F)),
    StableHlo.binary main_v1546 main_v1602 main_v1603 (subf : (⟨S2048x1, .f32⟩ : BufTy).Contents (Elt F) → (⟨S2048x1, .f32⟩ : BufTy).Contents (Elt F) → (⟨S2048x1, .f32⟩ : BufTy).Contents (Elt F)),
    StableHlo.nullary main_cst_343 (constant S_ .f32 0xFF800000#32),
    StableHlo.binary main_v1546 main_cst_343 main_v1604 ((fun x v => Host.reduce FloatOps.maximumf x v reducesTo_S2048x1_S_d0_1 h_S_) : (⟨S2048x1, .f32⟩ : BufTy).Contents (Elt F) → (⟨S_, .f32⟩ : BufTy).Contents (Elt F) → (⟨S_, .f32⟩ : BufTy).Contents (Elt F)),
    StableHlo.nullary main_cst_344 (constant S_ .f32 0x7F800000#32),
    StableHlo.binary main_v1546 main_cst_344 main_v1605 ((fun x v => Host.reduce FloatOps.minimumf x v reducesTo_S2048x1_S_d0_1 h_S_) : (⟨S2048x1, .f32⟩ : BufTy).Contents (Elt F) → (⟨S_, .f32⟩ : BufTy).Contents (Elt F) → (⟨S_, .f32⟩ : BufTy).Contents (Elt F)),
    StableHlo.binary main_v1604 main_v1605 main_v1606 (subf : (⟨S_, .f32⟩ : BufTy).Contents (Elt F) → (⟨S_, .f32⟩ : BufTy).Contents (Elt F) → (⟨S_, .f32⟩ : BufTy).Contents (Elt F)),
    StableHlo.unary main_v1606 main_v1607 (broadcastInDim S2048x1 ![] bcast_S_S2048x1 : (⟨S_, .f32⟩ : BufTy).Contents (Elt F) → (⟨S2048x1, .f32⟩ : BufTy).Contents (Elt F)),
    StableHlo.binary main_v1603 main_v1607 main_v1608 (Host.divf : (⟨S2048x1, .f32⟩ : BufTy).Contents (Elt F) → (⟨S2048x1, .f32⟩ : BufTy).Contents (Elt F) → (⟨S2048x1, .f32⟩ : BufTy).Contents (Elt F)),
    StableHlo.nullary main_cst_345 (constant S_ .f32 0xFF800000#32),
    StableHlo.binary main_v1600 main_cst_345 main_v1609 ((fun x v => Host.reduce FloatOps.maximumf x v reducesTo_S2048x2048_S_d0_1 h_S_) : (⟨S2048x2048, .f32⟩ : BufTy).Contents (Elt F) → (⟨S_, .f32⟩ : BufTy).Contents (Elt F) → (⟨S_, .f32⟩ : BufTy).Contents (Elt F)),
    StableHlo.unary main_v1609 main_v1610 (broadcastInDim S2048x1 ![] bcast_S_S2048x1 : (⟨S_, .f32⟩ : BufTy).Contents (Elt F) → (⟨S2048x1, .f32⟩ : BufTy).Contents (Elt F)),
    StableHlo.binary main_v1608 main_v1610 main_v1611 (mulf : (⟨S2048x1, .f32⟩ : BufTy).Contents (Elt F) → (⟨S2048x1, .f32⟩ : BufTy).Contents (Elt F) → (⟨S2048x1, .f32⟩ : BufTy).Contents (Elt F)),
    StableHlo.nullary main_cst_346 (constant S_ .f32 0x00000000#32),
    StableHlo.unary main_cst_346 main_v1612 (broadcastInDim S2048x2048 ![] bcast_S_S2048x2048 : (⟨S_, .f32⟩ : BufTy).Contents (Elt F) → (⟨S2048x2048, .f32⟩ : BufTy).Contents (Elt F)),
    StableHlo.binary main_v1589 main_v1612 main_v1613 (cmpf .ogt : (⟨S2048x2048, .f32⟩ : BufTy).Contents (Elt F) → (⟨S2048x2048, .f32⟩ : BufTy).Contents (Elt F) → (⟨S2048x2048, .i1⟩ : BufTy).Contents (Elt F)),
    StableHlo.unary main_v1611 main_v1614 (broadcastInDim S2048x2048 ![0, 1] bcast_S2048x1_S2048x2048_0_1 : (⟨S2048x1, .f32⟩ : BufTy).Contents (Elt F) → (⟨S2048x2048, .f32⟩ : BufTy).Contents (Elt F)),
    StableHlo.binary main_v1600 main_v1614 main_v1615 (addf : (⟨S2048x2048, .f32⟩ : BufTy).Contents (Elt F) → (⟨S2048x2048, .f32⟩ : BufTy).Contents (Elt F) → (⟨S2048x2048, .f32⟩ : BufTy).Contents (Elt F)),
    StableHlo.nullary main_cst_347 (constant S_ .f32 0xD368D4A5#32),
    StableHlo.TRef.unary (StableHlo.TRef.of (T := ⟨S_, .f32⟩) main_cst_347) main_call75.v0 id,
    StableHlo.TRef.unary main_call75.v0 main_call75.v1 (broadcastInDim S2048x2048 ![] bcast_S_S2048x2048),
    StableHlo.TRef.ternary (StableHlo.TRef.of (T := ⟨S2048x2048, .i1⟩) main_v1613) (StableHlo.TRef.of (T := ⟨S2048x2048, .f32⟩) main_v1615) main_call75.v1 main_call75.v2 select,
    StableHlo.nullary main_cst_348 (constant S_ .f32 0xFF800000#32),
    StableHlo.binary main_v1616 main_cst_348 main_v1617 ((fun x v => Host.reduce FloatOps.maximumf x v reducesTo_S2048x2048_S2048_d1 h_S_) : (⟨S2048x2048, .f32⟩ : BufTy).Contents (Elt F) → (⟨S_, .f32⟩ : BufTy).Contents (Elt F) → (⟨S2048, .f32⟩ : BufTy).Contents (Elt F)),
    StableHlo.nullary main_cst_349 (constant S_ .f32 0xFF800000#32),
    StableHlo.unary main_cst_349 main_v1618 (broadcastInDim S2048 ![] bcast_S_S2048 : (⟨S_, .f32⟩ : BufTy).Contents (Elt F) → (⟨S2048, .f32⟩ : BufTy).Contents (Elt F)),
    StableHlo.binary main_v1618 main_v1617 main_v1619 (maximumf : (⟨S2048, .f32⟩ : BufTy).Contents (Elt F) → (⟨S2048, .f32⟩ : BufTy).Contents (Elt F) → (⟨S2048, .f32⟩ : BufTy).Contents (Elt F)),
    StableHlo.unary main_v1619 main_v1620 (broadcastInDim S2048x1 ![0] bcast_S2048_S2048x1_0 : (⟨S2048, .f32⟩ : BufTy).Contents (Elt F) → (⟨S2048x1, .f32⟩ : BufTy).Contents (Elt F)),
    StableHlo.unary main_v1620 main_v1621 (broadcastInDim S2048x2048 ![0, 1] bcast_S2048x1_S2048x2048_0_1 : (⟨S2048x1, .f32⟩ : BufTy).Contents (Elt F) → (⟨S2048x2048, .f32⟩ : BufTy).Contents (Elt F)),
    StableHlo.binary main_v1616 main_v1621 main_v1622 (subf : (⟨S2048x2048, .f32⟩ : BufTy).Contents (Elt F) → (⟨S2048x2048, .f32⟩ : BufTy).Contents (Elt F) → (⟨S2048x2048, .f32⟩ : BufTy).Contents (Elt F)),
    StableHlo.unary main_v1622 main_v1623 (Host.exp : (⟨S2048x2048, .f32⟩ : BufTy).Contents (Elt F) → (⟨S2048x2048, .f32⟩ : BufTy).Contents (Elt F)),
    StableHlo.nullary main_cst_350 (constant S_ .f32 0x00000000#32),
    StableHlo.binary main_v1623 main_cst_350 main_v1624 ((fun x v => Host.reduceAdd x v reducesTo_S2048x2048_S2048_d1 h_S_) : (⟨S2048x2048, .f32⟩ : BufTy).Contents (Elt F) → (⟨S_, .f32⟩ : BufTy).Contents (Elt F) → (⟨S2048, .f32⟩ : BufTy).Contents (Elt F)),
    StableHlo.unary main_v1624 main_v1625 (broadcastInDim S2048x1 ![0] bcast_S2048_S2048x1_0 : (⟨S2048, .f32⟩ : BufTy).Contents (Elt F) → (⟨S2048x1, .f32⟩ : BufTy).Contents (Elt F)),
    StableHlo.unary main_v1625 main_v1626 (broadcastInDim S2048x2048 ![0, 1] bcast_S2048x1_S2048x2048_0_1 : (⟨S2048x1, .f32⟩ : BufTy).Contents (Elt F) → (⟨S2048x2048, .f32⟩ : BufTy).Contents (Elt F)) ]

set_option maxRecDepth 16384 in
set_option maxHeartbeats 4000000 in
/-- The window is that line: the called functions unfold at their calls and sequencing re-associates. -/
theorem main_part32_eq (c : Dev nD) : main_part32 (F := F) c = StableHlo.seq ops_part32 := rfl

set_option maxRecDepth 16384 in
set_option maxHeartbeats 4000000 in
/-- Every operation of the window is good; the result's index is compared by computation. -/
theorem ops_part32_good : (ops_part32 : List (HloOp τ sig (Elt F))).Forall (Good 12) :=
  ⟨unary_good (h := by decide) .., unary_good (h := by decide) .., binary_good (h := by decide) .., unary_good (h := by decide) ..,
    nullary_good (h := by decide) .., binary_good (h := by decide) .., unary_good (h := by decide) .., unary_good (h := by decide) ..,
    binary_good (h := by decide) .., unary_good (h := by decide) .., binary_good (h := by decide) .., nullary_good (h := by decide) ..,
    unary_good (h := by decide) .., binary_good (h := by decide) .., nullary_good (h := by decide) .., unary_good (h := by decide) ..,
    binary_good (h := by decide) .., nullary_good (h := by decide) .., unary_good (h := by decide) .., unary_good (h := by decide) ..,
    ternary_good (h := by decide) .., unary_good (h := by decide) .., nullary_good (h := by decide) .., unary_good (h := by decide) ..,
    binary_good (h := by decide) .., ternary_good (h := by decide) .., unary_good (h := by decide) .., binary_good (h := by decide) ..,
    binary_good (h := by decide) .., unary_good (h := by decide) .., binary_good (h := by decide) .., unary_good (h := by decide) ..,
    binary_good (h := by decide) .., unary_good (h := by decide) .., unary_good (h := by decide) .., unary_good (h := by decide) ..,
    binary_good (h := by decide) .., nullary_good (h := by decide) .., nullary_good (h := by decide) .., unary_good (h := by decide) ..,
    binary_good (h := by decide) .., unary_good (h := by decide) .., unary_good (h := by decide) .., binary_good (h := by decide) ..,
    ternary_good (h := by decide) .., nullary_good (h := by decide) .., binary_good (h := by decide) .., unary_good (h := by decide) ..,
    binary_good (h := by decide) .., nullary_good (h := by decide) .., binary_good (h := by decide) .., nullary_good (h := by decide) ..,
    binary_good (h := by decide) .., binary_good (h := by decide) .., unary_good (h := by decide) .., binary_good (h := by decide) ..,
    nullary_good (h := by decide) .., binary_good (h := by decide) .., unary_good (h := by decide) .., binary_good (h := by decide) ..,
    nullary_good (h := by decide) .., unary_good (h := by decide) .., binary_good (h := by decide) .., unary_good (h := by decide) ..,
    binary_good (h := by decide) .., nullary_good (h := by decide) .., unary_good (h := by decide) .., unary_good (h := by decide) ..,
    ternary_good (h := by decide) .., nullary_good (h := by decide) .., binary_good (h := by decide) .., nullary_good (h := by decide) ..,
    unary_good (h := by decide) .., binary_good (h := by decide) .., unary_good (h := by decide) .., unary_good (h := by decide) ..,
    binary_good (h := by decide) .., unary_good (h := by decide) .., nullary_good (h := by decide) .., binary_good (h := by decide) ..,
    unary_good (h := by decide) .., unary_good (h := by decide) ..⟩

end Cert.ReferenceIdeal.Hand

end
-- ==== Proof.Ref.W33.lean ====
import proofs.«146970_j35948876268088_1_alg».proof.ReferenceIdeal.P06
import proofs.«146970_j35948876268088_1_alg».proof.Proof.Ref.Keep

noncomputable section

namespace Cert.ReferenceIdeal.Hand

open Cert.ReferenceIdeal Idealize.ShloMosaic Idealize.ShloMosaic.TcCoe Idealize.SL.Sem Idealize.ShloMosaic.StableHlo

variable {F : FTy → Type} [FloatOps F]

variable [Facts]
open Facts₀ Facts

set_option maxHeartbeats 4000000 in
/-- The operations of window 33, in order; a called function's operations stand in its call's place. -/
abbrev ops_part33 : List (HloOp τ sig (Elt F)) :=
  [ StableHlo.binary main_v1623 main_v1626 main_v1627 (Host.divf : (⟨S2048x2048, .f32⟩ : BufTy).Contents (Elt F) → (⟨S2048x2048, .f32⟩ : BufTy).Contents (Elt F) → (⟨S2048x2048, .f32⟩ : BufTy).Contents (Elt F)),
    StableHlo.unary main_v1627 main_v1628 ((transpose S2048x2048 [1, 0] · transposes_S2048x2048_S2048x2048_1_0) : (⟨S2048x2048, .f32⟩ : BufTy).Contents (Elt F) → (⟨S2048x2048, .f32⟩ : BufTy).Contents (Elt F)),
    StableHlo.binary main_v1628 main_v1588 main_v1629 ((fun l r => Host.dotGeneral dot_S2048x2048_S2048x8_S2048x8_1_0_0_1_n_n none l r) : (⟨S2048x2048, .f32⟩ : BufTy).Contents (Elt F) → (⟨S2048x8, .f32⟩ : BufTy).Contents (Elt F) → (⟨S2048x8, .f32⟩ : BufTy).Contents (Elt F)),
    StableHlo.TRef.nullary main_call76.cst (constant S_ .f32 0x00000000#32),
    StableHlo.TRef.unary main_call76.cst main_call76.v0 (broadcastInDim S2048x8 ![] bcast_S_S2048x8),
    StableHlo.TRef.binary (StableHlo.TRef.of (T := ⟨S2048x8, .f32⟩) main_v1629) main_call76.v0 main_call76.v1 (cmpf .ogt),
    StableHlo.TRef.nullary main_call76.cst_0 (constant S_ .f32 0x00000000#32),
    StableHlo.TRef.unary main_call76.cst_0 main_call76.v2 (broadcastInDim S2048x8 ![] bcast_S_S2048x8),
    StableHlo.TRef.binary (StableHlo.TRef.of (T := ⟨S2048x8, .f32⟩) main_v1629) main_call76.v2 main_call76.v3 (cmpf .ogt),
    StableHlo.TRef.nullary main_call76.cst_1 (constant S_ .f32 0x00000000#32),
    StableHlo.TRef.unary main_call76.cst_1 main_call76.call0.v0 id,
    StableHlo.TRef.unary main_call76.call0.v0 main_call76.call0.v1 (broadcastInDim S2048x8 ![] bcast_S_S2048x8),
    StableHlo.TRef.ternary main_call76.v3 main_call76.call0.v1 (StableHlo.TRef.of (T := ⟨S2048x8, .f32⟩) main_v1629) main_call76.call0.v2 select,
    StableHlo.TRef.unary main_call76.call0.v2 main_call76.v5 Host.expm1,
    StableHlo.TRef.nullary main_call76.cst_2 (constant S_ .f32 0x3F800000#32),
    StableHlo.TRef.unary main_call76.cst_2 main_call76.v6 (broadcastInDim S2048x8 ![] bcast_S_S2048x8),
    StableHlo.TRef.binary main_call76.v6 main_call76.v5 main_call76.v7 mulf,
    StableHlo.TRef.ternary main_call76.v1 (StableHlo.TRef.of (T := ⟨S2048x8, .f32⟩) main_v1629) main_call76.v7 main_call76.call1.v0 select,
    StableHlo.unary main_v1258 main_v1631 ((extractStridedSlice S16x1 ![0, 3] · slices_S16x8_S16x1_0_3) : (⟨S16x8, .f32⟩ : BufTy).Contents (Elt F) → (⟨S16x1, .f32⟩ : BufTy).Contents (Elt F)),
    StableHlo.unary main_v1258 main_v1632 ((extractStridedSlice S16x1 ![0, 7] · slices_S16x8_S16x1_0_7) : (⟨S16x8, .f32⟩ : BufTy).Contents (Elt F) → (⟨S16x1, .f32⟩ : BufTy).Contents (Elt F)),
    StableHlo.unary main_arg4 main_v1633 ((extractStridedSlice S1x256x8 ![3, 0, 0] · slices_S4x256x8_S1x256x8_3_0_0) : (⟨S4x256x8, .f32⟩ : BufTy).Contents (Elt F) → (⟨S1x256x8, .f32⟩ : BufTy).Contents (Elt F)),
    StableHlo.reshape main_v1633 main_v1634 rfl shapeCasts_S1x256x8_S256x8,
    StableHlo.binary main_v144 main_v144 main_v1635 (mulf : (⟨S2048x256, .f32⟩ : BufTy).Contents (Elt F) → (⟨S2048x256, .f32⟩ : BufTy).Contents (Elt F) → (⟨S2048x256, .f32⟩ : BufTy).Contents (Elt F)),
    StableHlo.nullary main_cst_351 (constant S_ .f32 0x00000000#32),
    StableHlo.binary main_v1635 main_cst_351 main_v1636 ((fun x v => Host.reduceAdd x v reducesTo_S2048x256_S2048_d1 h_S_) : (⟨S2048x256, .f32⟩ : BufTy).Contents (Elt F) → (⟨S_, .f32⟩ : BufTy).Contents (Elt F) → (⟨S2048, .f32⟩ : BufTy).Contents (Elt F)),
    StableHlo.unary main_v1636 main_v1637 (Host.sqrt : (⟨S2048, .f32⟩ : BufTy).Contents (Elt F) → (⟨S2048, .f32⟩ : BufTy).Contents (Elt F)),
    StableHlo.unary main_v144 main_v1638 ((transpose S256x2048 [1, 0] · transposes_S2048x256_S256x2048_1_0) : (⟨S2048x256, .f32⟩ : BufTy).Contents (Elt F) → (⟨S256x2048, .f32⟩ : BufTy).Contents (Elt F)),
    StableHlo.binary main_v144 main_v1638 main_v1639 ((fun l r => Host.dotGeneral dot_S2048x256_S256x2048_S2048x2048_1_0_0_1_n_n none l r) : (⟨S2048x256, .f32⟩ : BufTy).Contents (Elt F) → (⟨S256x2048, .f32⟩ : BufTy).Contents (Elt F) → (⟨S2048x2048, .f32⟩ : BufTy).Contents (Elt F)),
    StableHlo.unary main_v1637 main_v1640 (broadcastInDim S2048x1 ![0] bcast_S2048_S2048x1_0 : (⟨S2048, .f32⟩ : BufTy).Contents (Elt F) → (⟨S2048x1, .f32⟩ : BufTy).Contents (Elt F)),
    StableHlo.unary main_v1637 main_v1641 (broadcastInDim S1x2048 ![1] bcast_S2048_S1x2048_1 : (⟨S2048, .f32⟩ : BufTy).Contents (Elt F) → (⟨S1x2048, .f32⟩ : BufTy).Contents (Elt F)),
    StableHlo.unary main_v1640 main_v1642 (broadcastInDim S2048x2048 ![0, 1] bcast_S2048x1_S2048x2048_0_1 : (⟨S2048x1, .f32⟩ : BufTy).Contents (Elt F) → (⟨S2048x2048, .f32⟩ : BufTy).Contents (Elt F)),
    StableHlo.unary main_v1641 main_v1643 (broadcastInDim S2048x2048 ![0, 1] bcast_S1x2048_S2048x2048_0_1 : (⟨S1x2048, .f32⟩ : BufTy).Contents (Elt F) → (⟨S2048x2048, .f32⟩ : BufTy).Contents (Elt F)),
    StableHlo.binary main_v1642 main_v1643 main_v1644 (mulf : (⟨S2048x2048, .f32⟩ : BufTy).Contents (Elt F) → (⟨S2048x2048, .f32⟩ : BufTy).Contents (Elt F) → (⟨S2048x2048, .f32⟩ : BufTy).Contents (Elt F)),
    StableHlo.binary main_v1639 main_v1644 main_v1645 (Host.divf : (⟨S2048x2048, .f32⟩ : BufTy).Contents (Elt F) → (⟨S2048x2048, .f32⟩ : BufTy).Contents (Elt F) → (⟨S2048x2048, .f32⟩ : BufTy).Contents (Elt F)),
    StableHlo.nullary main_v1646 (iotaInDim S2048x2048 32 0),
    StableHlo.nullary main_v1647 (iotaInDim S2048x2048 32 1),
    StableHlo.nullary main_c_352 (constantI S_ 32 0#32),
    StableHlo.unary main_c_352 main_v1648 (broadcastInDim S2048x2048 ![] bcast_S_S2048x2048 : (⟨S_, .i32⟩ : BufTy).Contents (Elt F) → (⟨S2048x2048, .i32⟩ : BufTy).Contents (Elt F)),
    StableHlo.binary main_v1646 main_v1648 main_v1649 (addi : (⟨S2048x2048, .i32⟩ : BufTy).Contents (Elt F) → (⟨S2048x2048, .i32⟩ : BufTy).Contents (Elt F) → (⟨S2048x2048, .i32⟩ : BufTy).Contents (Elt F)),
    StableHlo.binary main_v1649 main_v1647 main_v1650 (cmpi .eq : (⟨S2048x2048, .i32⟩ : BufTy).Contents (Elt F) → (⟨S2048x2048, .i32⟩ : BufTy).Contents (Elt F) → (⟨S2048x2048, .i1⟩ : BufTy).Contents (Elt F)),
    StableHlo.unary main_v1650 main_v1651 (uitofp .f32 : (⟨S2048x2048, .i1⟩ : BufTy).Contents (Elt F) → (⟨S2048x2048, .f32⟩ : BufTy).Contents (Elt F)),
    StableHlo.nullary main_cst_353 (constant S_ .f32 0x3F800000#32),
    StableHlo.unary main_cst_353 main_v1652 (broadcastInDim S2048x2048 ![] bcast_S_S2048x2048 : (⟨S_, .f32⟩ : BufTy).Contents (Elt F) → (⟨S2048x2048, .f32⟩ : BufTy).Contents (Elt F)),
    StableHlo.binary main_v1652 main_v1651 main_v1653 (subf : (⟨S2048x2048, .f32⟩ : BufTy).Contents (Elt F) → (⟨S2048x2048, .f32⟩ : BufTy).Contents (Elt F) → (⟨S2048x2048, .f32⟩ : BufTy).Contents (Elt F)),
    StableHlo.nullary main_cst_354 (constant S_ .f32 0x3F000000#32),
    StableHlo.unary main_cst_354 main_v1654 (broadcastInDim S2048x2048 ![] bcast_S_S2048x2048 : (⟨S_, .f32⟩ : BufTy).Contents (Elt F) → (⟨S2048x2048, .f32⟩ : BufTy).Contents (Elt F)),
    StableHlo.binary main_v1645 main_v1654 main_v1655 (cmpf .ogt : (⟨S2048x2048, .f32⟩ : BufTy).Contents (Elt F) → (⟨S2048x2048, .f32⟩ : BufTy).Contents (Elt F) → (⟨S2048x2048, .i1⟩ : BufTy).Contents (Elt F)),
    StableHlo.nullary main_cst_355 (constant S_ .f32 0x00000000#32),
    StableHlo.TRef.unary (StableHlo.TRef.of (T := ⟨S_, .f32⟩) main_cst_355) main_call77.v0 id,
    StableHlo.TRef.unary main_call77.v0 main_call77.v1 (broadcastInDim S2048x2048 ![] bcast_S_S2048x2048),
    StableHlo.TRef.ternary (StableHlo.TRef.of (T := ⟨S2048x2048, .i1⟩) main_v1655) (StableHlo.TRef.of (T := ⟨S2048x2048, .f32⟩) main_v1645) main_call77.v1 main_call77.v2 select,
    StableHlo.binary main_v1656 main_v1653 main_v1657 (mulf : (⟨S2048x2048, .f32⟩ : BufTy).Contents (Elt F) → (⟨S2048x2048, .f32⟩ : BufTy).Contents (Elt F) → (⟨S2048x2048, .f32⟩ : BufTy).Contents (Elt F)),
    StableHlo.unary main_v122 main_v1658 ((transpose S2048x2048 [1, 0] · transposes_S2048x2048_S2048x2048_1_0) : (⟨S2048x2048, .f32⟩ : BufTy).Contents (Elt F) → (⟨S2048x2048, .f32⟩ : BufTy).Contents (Elt F)),
    StableHlo.binary main_v122 main_v1658 main_v1659 ((fun l r => Host.dotGeneral dot_S2048x2048_S2048x2048_S2048x2048_1_0_0_1_n_n none l r) : (⟨S2048x2048, .f32⟩ : BufTy).Contents (Elt F) → (⟨S2048x2048, .f32⟩ : BufTy).Contents (Elt F) → (⟨S2048x2048, .f32⟩ : BufTy).Contents (Elt F)),
    StableHlo.nullary main_cst_356 (constant S_ .f32 0x00000000#32),
    StableHlo.unary main_cst_356 main_v1660 (broadcastInDim S2048x2048 ![] bcast_S_S2048x2048 : (⟨S_, .f32⟩ : BufTy).Contents (Elt F) → (⟨S2048x2048, .f32⟩ : BufTy).Contents (Elt F)),
    StableHlo.binary main_v1659 main_v1660 main_v1661 (cmpf .ogt : (⟨S2048x2048, .f32⟩ : BufTy).Contents (Elt F) → (⟨S2048x2048, .f32⟩ : BufTy).Contents (Elt F) → (⟨S2048x2048, .i1⟩ : BufTy).Contents (Elt F)),
    StableHlo.unary main_v1661 main_v1662 (uitofp .f32 : (⟨S2048x2048, .i1⟩ : BufTy).Contents (Elt F) → (⟨S2048x2048, .f32⟩ : BufTy).Contents (Elt F)),
    StableHlo.binary main_v1662 main_v1653 main_v1663 (mulf : (⟨S2048x2048, .f32⟩ : BufTy).Contents (Elt F) → (⟨S2048x2048, .f32⟩ : BufTy).Contents (Elt F) → (⟨S2048x2048, .f32⟩ : BufTy).Contents (Elt F)),
    StableHlo.binary main_v1657 main_v1663 main_v1664 (mulf : (⟨S2048x2048, .f32⟩ : BufTy).Contents (Elt F) → (⟨S2048x2048, .f32⟩ : BufTy).Contents (Elt F) → (⟨S2048x2048, .f32⟩ : BufTy).Contents (Elt F)),
    StableHlo.nullary main_cst_357 (constant S_ .f32 0x00000000#32),
    StableHlo.binary main_v1664 main_cst_357 main_v1665 ((fun x v => Host.reduceAdd x v reducesTo_S2048x2048_S2048_d1 h_S_) : (⟨S2048x2048, .f32⟩ : BufTy).Contents (Elt F) → (⟨S_, .f32⟩ : BufTy).Contents (Elt F) → (⟨S2048, .f32⟩ : BufTy).Contents (Elt F)),
    StableHlo.unary main_v1665 main_v1666 (broadcastInDim S2048x1 ![0] bcast_S2048_S2048x1_0 : (⟨S2048, .f32⟩ : BufTy).Contents (Elt F) → (⟨S2048x1, .f32⟩ : BufTy).Contents (Elt F)),
    StableHlo.unary main_v1666 main_v1667 (broadcastInDim S2048x2048 ![0, 1] bcast_S2048x1_S2048x2048_0_1 : (⟨S2048x1, .f32⟩ : BufTy).Contents (Elt F) → (⟨S2048x2048, .f32⟩ : BufTy).Contents (Elt F)),
    StableHlo.binary main_v122 main_v1667 main_v1668 (mulf : (⟨S2048x2048, .f32⟩ : BufTy).Contents (Elt F) → (⟨S2048x2048, .f32⟩ : BufTy).Contents (Elt F) → (⟨S2048x2048, .f32⟩ : BufTy).Contents (Elt F)),
    StableHlo.nullary main_cst_358 (constant S_ .f32 0x00000000#32),
    StableHlo.binary main_v1668 main_cst_358 main_v1669 ((fun x v => Host.reduceAdd x v reducesTo_S2048x2048_S2048_d0 h_S_) : (⟨S2048x2048, .f32⟩ : BufTy).Contents (Elt F) → (⟨S_, .f32⟩ : BufTy).Contents (Elt F) → (⟨S2048, .f32⟩ : BufTy).Contents (Elt F)),
    StableHlo.unary main_v1669 main_v1670 (broadcastInDim S2048x1 ![0] bcast_S2048_S2048x1_0 : (⟨S2048, .f32⟩ : BufTy).Contents (Elt F) → (⟨S2048x1, .f32⟩ : BufTy).Contents (Elt F)),
    StableHlo.binary main_v144 main_v1634 main_v1671 ((fun l r => Host.dotGeneral dot_S2048x256_S256x8_S2048x8_1_0_0_1_n_n none l r) : (⟨S2048x256, .f32⟩ : BufTy).Contents (Elt F) → (⟨S256x8, .f32⟩ : BufTy).Contents (Elt F) → (⟨S2048x8, .f32⟩ : BufTy).Contents (Elt F)),
    StableHlo.binary main_v144 main_v1634 main_v1672 ((fun l r => Host.dotGeneral dot_S2048x256_S256x8_S2048x8_1_0_0_1_n_n none l r) : (⟨S2048x256, .f32⟩ : BufTy).Contents (Elt F) → (⟨S256x8, .f32⟩ : BufTy).Contents (Elt F) → (⟨S2048x8, .f32⟩ : BufTy).Contents (Elt F)),
    StableHlo.binary main_v137 main_v1634 main_v1673 ((fun l r => Host.dotGeneral dot_S2048x256_S256x8_S2048x8_1_0_0_1_n_n none l r) : (⟨S2048x256, .f32⟩ : BufTy).Contents (Elt F) → (⟨S256x8, .f32⟩ : BufTy).Contents (Elt F) → (⟨S2048x8, .f32⟩ : BufTy).Contents (Elt F)),
    StableHlo.unary main_v1631 main_v1674 ((extractStridedSlice S8x1 ![0, 0] · slices_S16x1_S8x1_0_0) : (⟨S16x1, .f32⟩ : BufTy).Contents (Elt F) → (⟨S8x1, .f32⟩ : BufTy).Contents (Elt F)),
    StableHlo.binary main_v1672 main_v1674 main_v1675 ((fun l r => Host.dotGeneral dot_S2048x8_S8x1_S2048x1_1_0_0_1_n_n none l r) : (⟨S2048x8, .f32⟩ : BufTy).Contents (Elt F) → (⟨S8x1, .f32⟩ : BufTy).Contents (Elt F) → (⟨S2048x1, .f32⟩ : BufTy).Contents (Elt F)),
    StableHlo.unary main_v1631 main_v1676 ((extractStridedSlice S8x1 ![8, 0] · slices_S16x1_S8x1_8_0) : (⟨S16x1, .f32⟩ : BufTy).Contents (Elt F) → (⟨S8x1, .f32⟩ : BufTy).Contents (Elt F)),
    StableHlo.binary main_v1673 main_v1676 main_v1677 ((fun l r => Host.dotGeneral dot_S2048x8_S8x1_S2048x1_1_0_0_1_n_n none l r) : (⟨S2048x8, .f32⟩ : BufTy).Contents (Elt F) → (⟨S8x1, .f32⟩ : BufTy).Contents (Elt F) → (⟨S2048x1, .f32⟩ : BufTy).Contents (Elt F)),
    StableHlo.unary main_v1677 main_v1678 ((transpose S1x2048 [1, 0] · transposes_S2048x1_S1x2048_1_0) : (⟨S2048x1, .f32⟩ : BufTy).Contents (Elt F) → (⟨S1x2048, .f32⟩ : BufTy).Contents (Elt F)) ]

set_option maxRecDepth 16384 in
set_option maxHeartbeats 4000000 in
/-- The window is that line: the called functions unfold at their calls and sequencing re-associates. -/
theorem main_part33_eq (c : Dev nD) : main_part33 (F := F) c = StableHlo.seq ops_part33 := rfl

set_option maxRecDepth 16384 in
set_option maxHeartbeats 4000000 in
/-- Every operation of the window is good; the result's index is compared by computation. -/
theorem ops_part33_good : (ops_part33 : List (HloOp τ sig (Elt F))).Forall (Good 12) :=
  ⟨binary_good (h := by decide) .., unary_good (h := by decide) .., binary_good (h := by decide) .., nullary_good (h := by decide) ..,
    unary_good (h := by decide) .., binary_good (h := by decide) .., nullary_good (h := by decide) .., unary_good (h := by decide) ..,
    binary_good (h := by decide) .., nullary_good (h := by decide) .., unary_good (h := by decide) .., unary_good (h := by decide) ..,
    ternary_good (h := by decide) .., unary_good (h := by decide) .., nullary_good (h := by decide) .., unary_good (h := by decide) ..,
    binary_good (h := by decide) .., ternary_good (h := by decide) .., unary_good (h := by decide) .., unary_good (h := by decide) ..,
    unary_good (h := by decide) .., reshape_good (h := by decide) .., binary_good (h := by decide) .., nullary_good (h := by decide) ..,
    binary_good (h := by decide) .., unary_good (h := by decide) .., unary_good (h := by decide) .., binary_good (h := by decide) ..,
    unary_good (h := by decide) .., unary_good (h := by decide) .., unary_good (h := by decide) .., unary_good (h := by decide) ..,
    binary_good (h := by decide) .., binary_good (h := by decide) .., nullary_good (h := by decide) .., nullary_good (h := by decide) ..,
    nullary_good (h := by decide) .., unary_good (h := by decide) .., binary_good (h := by decide) .., binary_good (h := by decide) ..,
    unary_good (h := by decide) .., nullary_good (h := by decide) .., unary_good (h := by decide) .., binary_good (h := by decide) ..,
    nullary_good (h := by decide) .., unary_good (h := by decide) .., binary_good (h := by decide) .., nullary_good (h := by decide) ..,
    unary_good (h := by decide) .., unary_good (h := by decide) .., ternary_good (h := by decide) .., binary_good (h := by decide) ..,
    unary_good (h := by decide) .., binary_good (h := by decide) .., nullary_good (h := by decide) .., unary_good (h := by decide) ..,
    binary_good (h := by decide) .., unary_good (h := by decide) .., binary_good (h := by decide) .., binary_good (h := by decide) ..,
    nullary_good (h := by decide) .., binary_good (h := by decide) .., unary_good (h := by decide) .., unary_good (h := by decide) ..,
    binary_good (h := by decide) .., nullary_good (h := by decide) .., binary_good (h := by decide) .., unary_good (h := by decide) ..,
    binary_good (h := by decide) .., binary_good (h := by decide) .., binary_good (h := by decide) .., unary_good (h := by decide) ..,
    binary_good (h := by decide) .., unary_good (h := by decide) .., binary_good (h := by decide) .., unary_good (h := by decide) ..⟩

end Cert.ReferenceIdeal.Hand

end
-- ==== Proof.Ref.W34.lean ====
import proofs.«146970_j35948876268088_1_alg».proof.ReferenceIdeal.P06
import proofs.«146970_j35948876268088_1_alg».proof.Proof.Ref.Keep

noncomputable section

namespace Cert.ReferenceIdeal.Hand

open Cert.ReferenceIdeal Idealize.ShloMosaic Idealize.ShloMosaic.TcCoe Idealize.SL.Sem Idealize.ShloMosaic.StableHlo

variable {F : FTy → Type} [FloatOps F]

variable [Facts]
open Facts₀ Facts

set_option maxHeartbeats 4000000 in
/-- The operations of window 34, in order; a called function's operations stand in its call's place. -/
abbrev ops_part34 : List (HloOp τ sig (Elt F)) :=
  [ StableHlo.unary main_v1675 main_v1679 (broadcastInDim S2048x2048 ![0, 1] bcast_S2048x1_S2048x2048_0_1 : (⟨S2048x1, .f32⟩ : BufTy).Contents (Elt F) → (⟨S2048x2048, .f32⟩ : BufTy).Contents (Elt F)),
    StableHlo.unary main_v1678 main_v1680 (broadcastInDim S2048x2048 ![0, 1] bcast_S1x2048_S2048x2048_0_1 : (⟨S1x2048, .f32⟩ : BufTy).Contents (Elt F) → (⟨S2048x2048, .f32⟩ : BufTy).Contents (Elt F)),
    StableHlo.binary main_v1679 main_v1680 main_v1681 (addf : (⟨S2048x2048, .f32⟩ : BufTy).Contents (Elt F) → (⟨S2048x2048, .f32⟩ : BufTy).Contents (Elt F) → (⟨S2048x2048, .f32⟩ : BufTy).Contents (Elt F)),
    StableHlo.nullary main_cst_359 (constant S_ .f32 0x3E4CCCCD#32),
    StableHlo.TRef.nullary main_call78.cst (constant S_ .f32 0x00000000#32),
    StableHlo.TRef.unary main_call78.cst main_call78.v0 (broadcastInDim S2048x2048 ![] bcast_S_S2048x2048),
    StableHlo.TRef.binary (StableHlo.TRef.of (T := ⟨S2048x2048, .f32⟩) main_v1681) main_call78.v0 main_call78.v1 (cmpf .oge),
    StableHlo.TRef.unary (StableHlo.TRef.of (T := ⟨S_, .f32⟩) main_cst_359) main_call78.v2 id,
    StableHlo.TRef.unary main_call78.v2 main_call78.v3 (broadcastInDim S2048x2048 ![] bcast_S_S2048x2048),
    StableHlo.TRef.binary main_call78.v3 (StableHlo.TRef.of (T := ⟨S2048x2048, .f32⟩) main_v1681) main_call78.v4 mulf,
    StableHlo.TRef.ternary main_call78.v1 (StableHlo.TRef.of (T := ⟨S2048x2048, .f32⟩) main_v1681) main_call78.v4 main_call78.call0.v0 select,
    StableHlo.nullary main_cst_360 (constant S_ .f32 0x7F800000#32),
    StableHlo.binary main_v1666 main_cst_360 main_v1683 ((fun x v => Host.reduce FloatOps.minimumf x v reducesTo_S2048x1_S_d0_1 h_S_) : (⟨S2048x1, .f32⟩ : BufTy).Contents (Elt F) → (⟨S_, .f32⟩ : BufTy).Contents (Elt F) → (⟨S_, .f32⟩ : BufTy).Contents (Elt F)),
    StableHlo.unary main_v1683 main_v1684 (broadcastInDim S2048x1 ![] bcast_S_S2048x1 : (⟨S_, .f32⟩ : BufTy).Contents (Elt F) → (⟨S2048x1, .f32⟩ : BufTy).Contents (Elt F)),
    StableHlo.binary main_v1666 main_v1684 main_v1685 (subf : (⟨S2048x1, .f32⟩ : BufTy).Contents (Elt F) → (⟨S2048x1, .f32⟩ : BufTy).Contents (Elt F) → (⟨S2048x1, .f32⟩ : BufTy).Contents (Elt F)),
    StableHlo.nullary main_cst_361 (constant S_ .f32 0xFF800000#32),
    StableHlo.binary main_v1666 main_cst_361 main_v1686 ((fun x v => Host.reduce FloatOps.maximumf x v reducesTo_S2048x1_S_d0_1 h_S_) : (⟨S2048x1, .f32⟩ : BufTy).Contents (Elt F) → (⟨S_, .f32⟩ : BufTy).Contents (Elt F) → (⟨S_, .f32⟩ : BufTy).Contents (Elt F)),
    StableHlo.nullary main_cst_362 (constant S_ .f32 0x7F800000#32),
    StableHlo.binary main_v1666 main_cst_362 main_v1687 ((fun x v => Host.reduce FloatOps.minimumf x v reducesTo_S2048x1_S_d0_1 h_S_) : (⟨S2048x1, .f32⟩ : BufTy).Contents (Elt F) → (⟨S_, .f32⟩ : BufTy).Contents (Elt F) → (⟨S_, .f32⟩ : BufTy).Contents (Elt F)),
    StableHlo.binary main_v1686 main_v1687 main_v1688 (subf : (⟨S_, .f32⟩ : BufTy).Contents (Elt F) → (⟨S_, .f32⟩ : BufTy).Contents (Elt F) → (⟨S_, .f32⟩ : BufTy).Contents (Elt F)),
    StableHlo.unary main_v1688 main_v1689 (broadcastInDim S2048x1 ![] bcast_S_S2048x1 : (⟨S_, .f32⟩ : BufTy).Contents (Elt F) → (⟨S2048x1, .f32⟩ : BufTy).Contents (Elt F)),
    StableHlo.binary main_v1685 main_v1689 main_v1690 (Host.divf : (⟨S2048x1, .f32⟩ : BufTy).Contents (Elt F) → (⟨S2048x1, .f32⟩ : BufTy).Contents (Elt F) → (⟨S2048x1, .f32⟩ : BufTy).Contents (Elt F)),
    StableHlo.nullary main_cst_363 (constant S_ .f32 0xFF800000#32),
    StableHlo.binary main_v1682 main_cst_363 main_v1691 ((fun x v => Host.reduce FloatOps.maximumf x v reducesTo_S2048x2048_S_d0_1 h_S_) : (⟨S2048x2048, .f32⟩ : BufTy).Contents (Elt F) → (⟨S_, .f32⟩ : BufTy).Contents (Elt F) → (⟨S_, .f32⟩ : BufTy).Contents (Elt F)),
    StableHlo.unary main_v1691 main_v1692 (broadcastInDim S2048x1 ![] bcast_S_S2048x1 : (⟨S_, .f32⟩ : BufTy).Contents (Elt F) → (⟨S2048x1, .f32⟩ : BufTy).Contents (Elt F)),
    StableHlo.binary main_v1690 main_v1692 main_v1693 (mulf : (⟨S2048x1, .f32⟩ : BufTy).Contents (Elt F) → (⟨S2048x1, .f32⟩ : BufTy).Contents (Elt F) → (⟨S2048x1, .f32⟩ : BufTy).Contents (Elt F)),
    StableHlo.nullary main_cst_364 (constant S_ .f32 0x00000000#32),
    StableHlo.unary main_cst_364 main_v1694 (broadcastInDim S2048x2048 ![] bcast_S_S2048x2048 : (⟨S_, .f32⟩ : BufTy).Contents (Elt F) → (⟨S2048x2048, .f32⟩ : BufTy).Contents (Elt F)),
    StableHlo.binary main_v122 main_v1694 main_v1695 (cmpf .ogt : (⟨S2048x2048, .f32⟩ : BufTy).Contents (Elt F) → (⟨S2048x2048, .f32⟩ : BufTy).Contents (Elt F) → (⟨S2048x2048, .i1⟩ : BufTy).Contents (Elt F)),
    StableHlo.unary main_v1693 main_v1696 (broadcastInDim S2048x2048 ![0, 1] bcast_S2048x1_S2048x2048_0_1 : (⟨S2048x1, .f32⟩ : BufTy).Contents (Elt F) → (⟨S2048x2048, .f32⟩ : BufTy).Contents (Elt F)),
    StableHlo.binary main_v1682 main_v1696 main_v1697 (addf : (⟨S2048x2048, .f32⟩ : BufTy).Contents (Elt F) → (⟨S2048x2048, .f32⟩ : BufTy).Contents (Elt F) → (⟨S2048x2048, .f32⟩ : BufTy).Contents (Elt F)),
    StableHlo.nullary main_cst_365 (constant S_ .f32 0xD368D4A5#32),
    StableHlo.TRef.unary (StableHlo.TRef.of (T := ⟨S_, .f32⟩) main_cst_365) main_call79.v0 id,
    StableHlo.TRef.unary main_call79.v0 main_call79.v1 (broadcastInDim S2048x2048 ![] bcast_S_S2048x2048),
    StableHlo.TRef.ternary (StableHlo.TRef.of (T := ⟨S2048x2048, .i1⟩) main_v1695) (StableHlo.TRef.of (T := ⟨S2048x2048, .f32⟩) main_v1697) main_call79.v1 main_call79.v2 select,
    StableHlo.nullary main_cst_366 (constant S_ .f32 0xFF800000#32),
    StableHlo.binary main_v1698 main_cst_366 main_v1699 ((fun x v => Host.reduce FloatOps.maximumf x v reducesTo_S2048x2048_S2048_d1 h_S_) : (⟨S2048x2048, .f32⟩ : BufTy).Contents (Elt F) → (⟨S_, .f32⟩ : BufTy).Contents (Elt F) → (⟨S2048, .f32⟩ : BufTy).Contents (Elt F)),
    StableHlo.nullary main_cst_367 (constant S_ .f32 0xFF800000#32),
    StableHlo.unary main_cst_367 main_v1700 (broadcastInDim S2048 ![] bcast_S_S2048 : (⟨S_, .f32⟩ : BufTy).Contents (Elt F) → (⟨S2048, .f32⟩ : BufTy).Contents (Elt F)),
    StableHlo.binary main_v1700 main_v1699 main_v1701 (maximumf : (⟨S2048, .f32⟩ : BufTy).Contents (Elt F) → (⟨S2048, .f32⟩ : BufTy).Contents (Elt F) → (⟨S2048, .f32⟩ : BufTy).Contents (Elt F)),
    StableHlo.unary main_v1701 main_v1702 (broadcastInDim S2048x1 ![0] bcast_S2048_S2048x1_0 : (⟨S2048, .f32⟩ : BufTy).Contents (Elt F) → (⟨S2048x1, .f32⟩ : BufTy).Contents (Elt F)),
    StableHlo.unary main_v1702 main_v1703 (broadcastInDim S2048x2048 ![0, 1] bcast_S2048x1_S2048x2048_0_1 : (⟨S2048x1, .f32⟩ : BufTy).Contents (Elt F) → (⟨S2048x2048, .f32⟩ : BufTy).Contents (Elt F)),
    StableHlo.binary main_v1698 main_v1703 main_v1704 (subf : (⟨S2048x2048, .f32⟩ : BufTy).Contents (Elt F) → (⟨S2048x2048, .f32⟩ : BufTy).Contents (Elt F) → (⟨S2048x2048, .f32⟩ : BufTy).Contents (Elt F)),
    StableHlo.unary main_v1704 main_v1705 (Host.exp : (⟨S2048x2048, .f32⟩ : BufTy).Contents (Elt F) → (⟨S2048x2048, .f32⟩ : BufTy).Contents (Elt F)),
    StableHlo.nullary main_cst_368 (constant S_ .f32 0x00000000#32),
    StableHlo.binary main_v1705 main_cst_368 main_v1706 ((fun x v => Host.reduceAdd x v reducesTo_S2048x2048_S2048_d1 h_S_) : (⟨S2048x2048, .f32⟩ : BufTy).Contents (Elt F) → (⟨S_, .f32⟩ : BufTy).Contents (Elt F) → (⟨S2048, .f32⟩ : BufTy).Contents (Elt F)),
    StableHlo.unary main_v1706 main_v1707 (broadcastInDim S2048x1 ![0] bcast_S2048_S2048x1_0 : (⟨S2048, .f32⟩ : BufTy).Contents (Elt F) → (⟨S2048x1, .f32⟩ : BufTy).Contents (Elt F)),
    StableHlo.unary main_v1707 main_v1708 (broadcastInDim S2048x2048 ![0, 1] bcast_S2048x1_S2048x2048_0_1 : (⟨S2048x1, .f32⟩ : BufTy).Contents (Elt F) → (⟨S2048x2048, .f32⟩ : BufTy).Contents (Elt F)),
    StableHlo.binary main_v1705 main_v1708 main_v1709 (Host.divf : (⟨S2048x2048, .f32⟩ : BufTy).Contents (Elt F) → (⟨S2048x2048, .f32⟩ : BufTy).Contents (Elt F) → (⟨S2048x2048, .f32⟩ : BufTy).Contents (Elt F)),
    StableHlo.unary main_v1709 main_v1710 ((transpose S2048x2048 [1, 0] · transposes_S2048x2048_S2048x2048_1_0) : (⟨S2048x2048, .f32⟩ : BufTy).Contents (Elt F) → (⟨S2048x2048, .f32⟩ : BufTy).Contents (Elt F)),
    StableHlo.binary main_v1710 main_v1671 main_v1711 ((fun l r => Host.dotGeneral dot_S2048x2048_S2048x8_S2048x8_1_0_0_1_n_n none l r) : (⟨S2048x2048, .f32⟩ : BufTy).Contents (Elt F) → (⟨S2048x8, .f32⟩ : BufTy).Contents (Elt F) → (⟨S2048x8, .f32⟩ : BufTy).Contents (Elt F)),
    StableHlo.TRef.nullary main_call80.cst (constant S_ .f32 0x00000000#32),
    StableHlo.TRef.unary main_call80.cst main_call80.v0 (broadcastInDim S2048x8 ![] bcast_S_S2048x8),
    StableHlo.TRef.binary (StableHlo.TRef.of (T := ⟨S2048x8, .f32⟩) main_v1711) main_call80.v0 main_call80.v1 (cmpf .ogt),
    StableHlo.TRef.nullary main_call80.cst_0 (constant S_ .f32 0x00000000#32),
    StableHlo.TRef.unary main_call80.cst_0 main_call80.v2 (broadcastInDim S2048x8 ![] bcast_S_S2048x8),
    StableHlo.TRef.binary (StableHlo.TRef.of (T := ⟨S2048x8, .f32⟩) main_v1711) main_call80.v2 main_call80.v3 (cmpf .ogt),
    StableHlo.TRef.nullary main_call80.cst_1 (constant S_ .f32 0x00000000#32),
    StableHlo.TRef.unary main_call80.cst_1 main_call80.call0.v0 id,
    StableHlo.TRef.unary main_call80.call0.v0 main_call80.call0.v1 (broadcastInDim S2048x8 ![] bcast_S_S2048x8),
    StableHlo.TRef.ternary main_call80.v3 main_call80.call0.v1 (StableHlo.TRef.of (T := ⟨S2048x8, .f32⟩) main_v1711) main_call80.call0.v2 select,
    StableHlo.TRef.unary main_call80.call0.v2 main_call80.v5 Host.expm1,
    StableHlo.TRef.nullary main_call80.cst_2 (constant S_ .f32 0x3F800000#32),
    StableHlo.TRef.unary main_call80.cst_2 main_call80.v6 (broadcastInDim S2048x8 ![] bcast_S_S2048x8),
    StableHlo.TRef.binary main_call80.v6 main_call80.v5 main_call80.v7 mulf,
    StableHlo.TRef.ternary main_call80.v1 (StableHlo.TRef.of (T := ⟨S2048x8, .f32⟩) main_v1711) main_call80.v7 main_call80.call1.v0 select,
    StableHlo.unary main_v122 main_v1713 ((transpose S2048x2048 [1, 0] · transposes_S2048x2048_S2048x2048_1_0) : (⟨S2048x2048, .f32⟩ : BufTy).Contents (Elt F) → (⟨S2048x2048, .f32⟩ : BufTy).Contents (Elt F)),
    StableHlo.binary main_v137 main_v1634 main_v1714 ((fun l r => Host.dotGeneral dot_S2048x256_S256x8_S2048x8_1_0_0_1_n_n none l r) : (⟨S2048x256, .f32⟩ : BufTy).Contents (Elt F) → (⟨S256x8, .f32⟩ : BufTy).Contents (Elt F) → (⟨S2048x8, .f32⟩ : BufTy).Contents (Elt F)),
    StableHlo.binary main_v144 main_v1634 main_v1715 ((fun l r => Host.dotGeneral dot_S2048x256_S256x8_S2048x8_1_0_0_1_n_n none l r) : (⟨S2048x256, .f32⟩ : BufTy).Contents (Elt F) → (⟨S256x8, .f32⟩ : BufTy).Contents (Elt F) → (⟨S2048x8, .f32⟩ : BufTy).Contents (Elt F)),
    StableHlo.unary main_v1632 main_v1716 ((extractStridedSlice S8x1 ![0, 0] · slices_S16x1_S8x1_0_0) : (⟨S16x1, .f32⟩ : BufTy).Contents (Elt F) → (⟨S8x1, .f32⟩ : BufTy).Contents (Elt F)),
    StableHlo.binary main_v1714 main_v1716 main_v1717 ((fun l r => Host.dotGeneral dot_S2048x8_S8x1_S2048x1_1_0_0_1_n_n none l r) : (⟨S2048x8, .f32⟩ : BufTy).Contents (Elt F) → (⟨S8x1, .f32⟩ : BufTy).Contents (Elt F) → (⟨S2048x1, .f32⟩ : BufTy).Contents (Elt F)),
    StableHlo.unary main_v1632 main_v1718 ((extractStridedSlice S8x1 ![8, 0] · slices_S16x1_S8x1_8_0) : (⟨S16x1, .f32⟩ : BufTy).Contents (Elt F) → (⟨S8x1, .f32⟩ : BufTy).Contents (Elt F)),
    StableHlo.binary main_v1715 main_v1718 main_v1719 ((fun l r => Host.dotGeneral dot_S2048x8_S8x1_S2048x1_1_0_0_1_n_n none l r) : (⟨S2048x8, .f32⟩ : BufTy).Contents (Elt F) → (⟨S8x1, .f32⟩ : BufTy).Contents (Elt F) → (⟨S2048x1, .f32⟩ : BufTy).Contents (Elt F)),
    StableHlo.unary main_v1719 main_v1720 ((transpose S1x2048 [1, 0] · transposes_S2048x1_S1x2048_1_0) : (⟨S2048x1, .f32⟩ : BufTy).Contents (Elt F) → (⟨S1x2048, .f32⟩ : BufTy).Contents (Elt F)),
    StableHlo.unary main_v1717 main_v1721 (broadcastInDim S2048x2048 ![0, 1] bcast_S2048x1_S2048x2048_0_1 : (⟨S2048x1, .f32⟩ : BufTy).Contents (Elt F) → (⟨S2048x2048, .f32⟩ : BufTy).Contents (Elt F)),
    StableHlo.unary main_v1720 main_v1722 (broadcastInDim S2048x2048 ![0, 1] bcast_S1x2048_S2048x2048_0_1 : (⟨S1x2048, .f32⟩ : BufTy).Contents (Elt F) → (⟨S2048x2048, .f32⟩ : BufTy).Contents (Elt F)),
    StableHlo.binary main_v1721 main_v1722 main_v1723 (addf : (⟨S2048x2048, .f32⟩ : BufTy).Contents (Elt F) → (⟨S2048x2048, .f32⟩ : BufTy).Contents (Elt F) → (⟨S2048x2048, .f32⟩ : BufTy).Contents (Elt F)),
    StableHlo.nullary main_cst_369 (constant S_ .f32 0x3E4CCCCD#32),
    StableHlo.TRef.nullary main_call81.cst (constant S_ .f32 0x00000000#32),
    StableHlo.TRef.unary main_call81.cst main_call81.v0 (broadcastInDim S2048x2048 ![] bcast_S_S2048x2048),
    StableHlo.TRef.binary (StableHlo.TRef.of (T := ⟨S2048x2048, .f32⟩) main_v1723) main_call81.v0 main_call81.v1 (cmpf .oge),
    StableHlo.TRef.unary (StableHlo.TRef.of (T := ⟨S_, .f32⟩) main_cst_369) main_call81.v2 id,
    StableHlo.TRef.unary main_call81.v2 main_call81.v3 (broadcastInDim S2048x2048 ![] bcast_S_S2048x2048),
    StableHlo.TRef.binary main_call81.v3 (StableHlo.TRef.of (T := ⟨S2048x2048, .f32⟩) main_v1723) main_call81.v4 mulf,
    StableHlo.TRef.ternary main_call81.v1 (StableHlo.TRef.of (T := ⟨S2048x2048, .f32⟩) main_v1723) main_call81.v4 main_call81.call0.v0 select,
    StableHlo.nullary main_cst_370 (constant S_ .f32 0x7F800000#32),
    StableHlo.binary main_v1670 main_cst_370 main_v1725 ((fun x v => Host.reduce FloatOps.minimumf x v reducesTo_S2048x1_S_d0_1 h_S_) : (⟨S2048x1, .f32⟩ : BufTy).Contents (Elt F) → (⟨S_, .f32⟩ : BufTy).Contents (Elt F) → (⟨S_, .f32⟩ : BufTy).Contents (Elt F)),
    StableHlo.unary main_v1725 main_v1726 (broadcastInDim S2048x1 ![] bcast_S_S2048x1 : (⟨S_, .f32⟩ : BufTy).Contents (Elt F) → (⟨S2048x1, .f32⟩ : BufTy).Contents (Elt F)) ]

set_option maxRecDepth 16384 in
set_option maxHeartbeats 4000000 in
/-- The window is that line: the called functions unfold at their calls and sequencing re-associates. -/
theorem main_part34_eq (c : Dev nD) : main_part34 (F := F) c = StableHlo.seq ops_part34 := rfl

set_option maxRecDepth 16384 in
set_option maxHeartbeats 4000000 in
/-- Every operation of the window is good; the result's index is compared by computation. -/
theorem ops_part34_good : (ops_part34 : List (HloOp τ sig (Elt F))).Forall (Good 12) :=
  ⟨unary_good (h := by decide) .., unary_good (h := by decide) .., binary_good (h := by decide) .., nullary_good (h := by decide) ..,
    nullary_good (h := by decide) .., unary_good (h := by decide) .., binary_good (h := by decide) .., unary_good (h := by decide) ..,
    unary_good (h := by decide) .., binary_good (h := by decide) .., ternary_good (h := by decide) .., nullary_good (h := by decide) ..,
    binary_good (h := by decide) .., unary_good (h := by decide) .., binary_good (h := by decide) .., nullary_good (h := by decide) ..,
    binary_good (h := by decide) .., nullary_good (h := by decide) .., binary_good (h := by decide) .., binary_good (h := by decide) ..,
    unary_good (h := by decide) .., binary_good (h := by decide) .., nullary_good (h := by decide) .., binary_good (h := by decide) ..,
    unary_good (h := by decide) .., binary_good (h := by decide) .., nullary_good (h := by decide) .., unary_good (h := by decide) ..,
    binary_good (h := by decide) .., unary_good (h := by decide) .., binary_good (h := by decide) .., nullary_good (h := by decide) ..,
    unary_good (h := by decide) .., unary_good (h := by decide) .., ternary_good (h := by decide) .., nullary_good (h := by decide) ..,
    binary_good (h := by decide) .., nullary_good (h := by decide) .., unary_good (h := by decide) .., binary_good (h := by decide) ..,
    unary_good (h := by decide) .., unary_good (h := by decide) .., binary_good (h := by decide) .., unary_good (h := by decide) ..,
    nullary_good (h := by decide) .., binary_good (h := by decide) .., unary_good (h := by decide) .., unary_good (h := by decide) ..,
    binary_good (h := by decide) .., unary_good (h := by decide) .., binary_good (h := by decide) .., nullary_good (h := by decide) ..,
    unary_good (h := by decide) .., binary_good (h := by decide) .., nullary_good (h := by decide) .., unary_good (h := by decide) ..,
    binary_good (h := by decide) .., nullary_good (h := by decide) .., unary_good (h := by decide) .., unary_good (h := by decide) ..,
    ternary_good (h := by decide) .., unary_good (h := by decide) .., nullary_good (h := by decide) .., unary_good (h := by decide) ..,
    binary_good (h := by decide) .., ternary_good (h := by decide) .., unary_good (h := by decide) .., binary_good (h := by decide) ..,
    binary_good (h := by decide) .., unary_good (h := by decide) .., binary_good (h := by decide) .., unary_good (h := by decide) ..,
    binary_good (h := by decide) .., unary_good (h := by decide) .., unary_good (h := by decide) .., unary_good (h := by decide) ..,
    binary_good (h := by decide) .., nullary_good (h := by decide) .., nullary_good (h := by decide) .., unary_good (h := by decide) ..,
    binary_good (h := by decide) .., unary_good (h := by decide) .., unary_good (h := by decide) .., binary_good (h := by decide) ..,
    ternary_good (h := by decide) .., nullary_good (h := by decide) .., binary_good (h := by decide) .., unary_good (h := by decide) ..⟩

end Cert.ReferenceIdeal.Hand

end
-- ==== Proof.Ref.W35.lean ====
import proofs.«146970_j35948876268088_1_alg».proof.ReferenceIdeal.P06
import proofs.«146970_j35948876268088_1_alg».proof.Proof.Ref.Keep

noncomputable section

namespace Cert.ReferenceIdeal.Hand

open Cert.ReferenceIdeal Idealize.ShloMosaic Idealize.ShloMosaic.TcCoe Idealize.SL.Sem Idealize.ShloMosaic.StableHlo

variable {F : FTy → Type} [FloatOps F]

variable [Facts]
open Facts₀ Facts

set_option maxHeartbeats 4000000 in
/-- The operations of window 35, in order; a called function's operations stand in its call's place. -/
abbrev ops_part35 : List (HloOp τ sig (Elt F)) :=
  [ StableHlo.binary main_v1670 main_v1726 main_v1727 (subf : (⟨S2048x1, .f32⟩ : BufTy).Contents (Elt F) → (⟨S2048x1, .f32⟩ : BufTy).Contents (Elt F) → (⟨S2048x1, .f32⟩ : BufTy).Contents (Elt F)),
    StableHlo.nullary main_cst_371 (constant S_ .f32 0xFF800000#32),
    StableHlo.binary main_v1670 main_cst_371 main_v1728 ((fun x v => Host.reduce FloatOps.maximumf x v reducesTo_S2048x1_S_d0_1 h_S_) : (⟨S2048x1, .f32⟩ : BufTy).Contents (Elt F) → (⟨S_, .f32⟩ : BufTy).Contents (Elt F) → (⟨S_, .f32⟩ : BufTy).Contents (Elt F)),
    StableHlo.nullary main_cst_372 (constant S_ .f32 0x7F800000#32),
    StableHlo.binary main_v1670 main_cst_372 main_v1729 ((fun x v => Host.reduce FloatOps.minimumf x v reducesTo_S2048x1_S_d0_1 h_S_) : (⟨S2048x1, .f32⟩ : BufTy).Contents (Elt F) → (⟨S_, .f32⟩ : BufTy).Contents (Elt F) → (⟨S_, .f32⟩ : BufTy).Contents (Elt F)),
    StableHlo.binary main_v1728 main_v1729 main_v1730 (subf : (⟨S_, .f32⟩ : BufTy).Contents (Elt F) → (⟨S_, .f32⟩ : BufTy).Contents (Elt F) → (⟨S_, .f32⟩ : BufTy).Contents (Elt F)),
    StableHlo.unary main_v1730 main_v1731 (broadcastInDim S2048x1 ![] bcast_S_S2048x1 : (⟨S_, .f32⟩ : BufTy).Contents (Elt F) → (⟨S2048x1, .f32⟩ : BufTy).Contents (Elt F)),
    StableHlo.binary main_v1727 main_v1731 main_v1732 (Host.divf : (⟨S2048x1, .f32⟩ : BufTy).Contents (Elt F) → (⟨S2048x1, .f32⟩ : BufTy).Contents (Elt F) → (⟨S2048x1, .f32⟩ : BufTy).Contents (Elt F)),
    StableHlo.nullary main_cst_373 (constant S_ .f32 0xFF800000#32),
    StableHlo.binary main_v1724 main_cst_373 main_v1733 ((fun x v => Host.reduce FloatOps.maximumf x v reducesTo_S2048x2048_S_d0_1 h_S_) : (⟨S2048x2048, .f32⟩ : BufTy).Contents (Elt F) → (⟨S_, .f32⟩ : BufTy).Contents (Elt F) → (⟨S_, .f32⟩ : BufTy).Contents (Elt F)),
    StableHlo.unary main_v1733 main_v1734 (broadcastInDim S2048x1 ![] bcast_S_S2048x1 : (⟨S_, .f32⟩ : BufTy).Contents (Elt F) → (⟨S2048x1, .f32⟩ : BufTy).Contents (Elt F)),
    StableHlo.binary main_v1732 main_v1734 main_v1735 (mulf : (⟨S2048x1, .f32⟩ : BufTy).Contents (Elt F) → (⟨S2048x1, .f32⟩ : BufTy).Contents (Elt F) → (⟨S2048x1, .f32⟩ : BufTy).Contents (Elt F)),
    StableHlo.nullary main_cst_374 (constant S_ .f32 0x00000000#32),
    StableHlo.unary main_cst_374 main_v1736 (broadcastInDim S2048x2048 ![] bcast_S_S2048x2048 : (⟨S_, .f32⟩ : BufTy).Contents (Elt F) → (⟨S2048x2048, .f32⟩ : BufTy).Contents (Elt F)),
    StableHlo.binary main_v1713 main_v1736 main_v1737 (cmpf .ogt : (⟨S2048x2048, .f32⟩ : BufTy).Contents (Elt F) → (⟨S2048x2048, .f32⟩ : BufTy).Contents (Elt F) → (⟨S2048x2048, .i1⟩ : BufTy).Contents (Elt F)),
    StableHlo.unary main_v1735 main_v1738 (broadcastInDim S2048x2048 ![0, 1] bcast_S2048x1_S2048x2048_0_1 : (⟨S2048x1, .f32⟩ : BufTy).Contents (Elt F) → (⟨S2048x2048, .f32⟩ : BufTy).Contents (Elt F)),
    StableHlo.binary main_v1724 main_v1738 main_v1739 (addf : (⟨S2048x2048, .f32⟩ : BufTy).Contents (Elt F) → (⟨S2048x2048, .f32⟩ : BufTy).Contents (Elt F) → (⟨S2048x2048, .f32⟩ : BufTy).Contents (Elt F)),
    StableHlo.nullary main_cst_375 (constant S_ .f32 0xD368D4A5#32),
    StableHlo.TRef.unary (StableHlo.TRef.of (T := ⟨S_, .f32⟩) main_cst_375) main_call82.v0 id,
    StableHlo.TRef.unary main_call82.v0 main_call82.v1 (broadcastInDim S2048x2048 ![] bcast_S_S2048x2048),
    StableHlo.TRef.ternary (StableHlo.TRef.of (T := ⟨S2048x2048, .i1⟩) main_v1737) (StableHlo.TRef.of (T := ⟨S2048x2048, .f32⟩) main_v1739) main_call82.v1 main_call82.v2 select,
    StableHlo.nullary main_cst_376 (constant S_ .f32 0xFF800000#32),
    StableHlo.binary main_v1740 main_cst_376 main_v1741 ((fun x v => Host.reduce FloatOps.maximumf x v reducesTo_S2048x2048_S2048_d1 h_S_) : (⟨S2048x2048, .f32⟩ : BufTy).Contents (Elt F) → (⟨S_, .f32⟩ : BufTy).Contents (Elt F) → (⟨S2048, .f32⟩ : BufTy).Contents (Elt F)),
    StableHlo.nullary main_cst_377 (constant S_ .f32 0xFF800000#32),
    StableHlo.unary main_cst_377 main_v1742 (broadcastInDim S2048 ![] bcast_S_S2048 : (⟨S_, .f32⟩ : BufTy).Contents (Elt F) → (⟨S2048, .f32⟩ : BufTy).Contents (Elt F)),
    StableHlo.binary main_v1742 main_v1741 main_v1743 (maximumf : (⟨S2048, .f32⟩ : BufTy).Contents (Elt F) → (⟨S2048, .f32⟩ : BufTy).Contents (Elt F) → (⟨S2048, .f32⟩ : BufTy).Contents (Elt F)),
    StableHlo.unary main_v1743 main_v1744 (broadcastInDim S2048x1 ![0] bcast_S2048_S2048x1_0 : (⟨S2048, .f32⟩ : BufTy).Contents (Elt F) → (⟨S2048x1, .f32⟩ : BufTy).Contents (Elt F)),
    StableHlo.unary main_v1744 main_v1745 (broadcastInDim S2048x2048 ![0, 1] bcast_S2048x1_S2048x2048_0_1 : (⟨S2048x1, .f32⟩ : BufTy).Contents (Elt F) → (⟨S2048x2048, .f32⟩ : BufTy).Contents (Elt F)),
    StableHlo.binary main_v1740 main_v1745 main_v1746 (subf : (⟨S2048x2048, .f32⟩ : BufTy).Contents (Elt F) → (⟨S2048x2048, .f32⟩ : BufTy).Contents (Elt F) → (⟨S2048x2048, .f32⟩ : BufTy).Contents (Elt F)),
    StableHlo.unary main_v1746 main_v1747 (Host.exp : (⟨S2048x2048, .f32⟩ : BufTy).Contents (Elt F) → (⟨S2048x2048, .f32⟩ : BufTy).Contents (Elt F)),
    StableHlo.nullary main_cst_378 (constant S_ .f32 0x00000000#32),
    StableHlo.binary main_v1747 main_cst_378 main_v1748 ((fun x v => Host.reduceAdd x v reducesTo_S2048x2048_S2048_d1 h_S_) : (⟨S2048x2048, .f32⟩ : BufTy).Contents (Elt F) → (⟨S_, .f32⟩ : BufTy).Contents (Elt F) → (⟨S2048, .f32⟩ : BufTy).Contents (Elt F)),
    StableHlo.unary main_v1748 main_v1749 (broadcastInDim S2048x1 ![0] bcast_S2048_S2048x1_0 : (⟨S2048, .f32⟩ : BufTy).Contents (Elt F) → (⟨S2048x1, .f32⟩ : BufTy).Contents (Elt F)),
    StableHlo.unary main_v1749 main_v1750 (broadcastInDim S2048x2048 ![0, 1] bcast_S2048x1_S2048x2048_0_1 : (⟨S2048x1, .f32⟩ : BufTy).Contents (Elt F) → (⟨S2048x2048, .f32⟩ : BufTy).Contents (Elt F)),
    StableHlo.binary main_v1747 main_v1750 main_v1751 (Host.divf : (⟨S2048x2048, .f32⟩ : BufTy).Contents (Elt F) → (⟨S2048x2048, .f32⟩ : BufTy).Contents (Elt F) → (⟨S2048x2048, .f32⟩ : BufTy).Contents (Elt F)),
    StableHlo.unary main_v1751 main_v1752 ((transpose S2048x2048 [1, 0] · transposes_S2048x2048_S2048x2048_1_0) : (⟨S2048x2048, .f32⟩ : BufTy).Contents (Elt F) → (⟨S2048x2048, .f32⟩ : BufTy).Contents (Elt F)),
    StableHlo.binary main_v1752 main_v1712 main_v1753 ((fun l r => Host.dotGeneral dot_S2048x2048_S2048x8_S2048x8_1_0_0_1_n_n none l r) : (⟨S2048x2048, .f32⟩ : BufTy).Contents (Elt F) → (⟨S2048x8, .f32⟩ : BufTy).Contents (Elt F) → (⟨S2048x8, .f32⟩ : BufTy).Contents (Elt F)),
    StableHlo.TRef.nullary main_call83.cst (constant S_ .f32 0x00000000#32),
    StableHlo.TRef.unary main_call83.cst main_call83.v0 (broadcastInDim S2048x8 ![] bcast_S_S2048x8),
    StableHlo.TRef.binary (StableHlo.TRef.of (T := ⟨S2048x8, .f32⟩) main_v1753) main_call83.v0 main_call83.v1 (cmpf .ogt),
    StableHlo.TRef.nullary main_call83.cst_0 (constant S_ .f32 0x00000000#32),
    StableHlo.TRef.unary main_call83.cst_0 main_call83.v2 (broadcastInDim S2048x8 ![] bcast_S_S2048x8),
    StableHlo.TRef.binary (StableHlo.TRef.of (T := ⟨S2048x8, .f32⟩) main_v1753) main_call83.v2 main_call83.v3 (cmpf .ogt),
    StableHlo.TRef.nullary main_call83.cst_1 (constant S_ .f32 0x00000000#32),
    StableHlo.TRef.unary main_call83.cst_1 main_call83.call0.v0 id,
    StableHlo.TRef.unary main_call83.call0.v0 main_call83.call0.v1 (broadcastInDim S2048x8 ![] bcast_S_S2048x8),
    StableHlo.TRef.ternary main_call83.v3 main_call83.call0.v1 (StableHlo.TRef.of (T := ⟨S2048x8, .f32⟩) main_v1753) main_call83.call0.v2 select,
    StableHlo.TRef.unary main_call83.call0.v2 main_call83.v5 Host.expm1,
    StableHlo.TRef.nullary main_call83.cst_2 (constant S_ .f32 0x3F800000#32),
    StableHlo.TRef.unary main_call83.cst_2 main_call83.v6 (broadcastInDim S2048x8 ![] bcast_S_S2048x8),
    StableHlo.TRef.binary main_call83.v6 main_call83.v5 main_call83.v7 mulf,
    StableHlo.TRef.ternary main_call83.v1 (StableHlo.TRef.of (T := ⟨S2048x8, .f32⟩) main_v1753) main_call83.v7 main_call83.call1.v0 select,
    StableHlo.nary ![main_v1382, main_v1506, main_v1630, main_v1754] main_v1755 (fun u => concatenate S2048x32 1 [⟨S2048x8, u 0⟩, ⟨S2048x8, u 1⟩, ⟨S2048x8, u 2⟩, ⟨S2048x8, u 3⟩] concatenates_S2048x8_S2048x8_S2048x8_S2048x8_S2048x32_d1),
    StableHlo.unary main_arg2 main_v1756 ((transpose S32x256 [1, 0] · transposes_S256x32_S32x256_1_0) : (⟨S256x32, .f32⟩ : BufTy).Contents (Elt F) → (⟨S32x256, .f32⟩ : BufTy).Contents (Elt F)),
    StableHlo.binary main_v681 main_v1756 main_v1757 ((fun l r => Host.dotGeneral dot_S2048x32_S32x256_S2048x256_1_0_0_1_n_n none l r) : (⟨S2048x32, .f32⟩ : BufTy).Contents (Elt F) → (⟨S32x256, .f32⟩ : BufTy).Contents (Elt F) → (⟨S2048x256, .f32⟩ : BufTy).Contents (Elt F)),
    StableHlo.unary main_arg3 main_v1758 (broadcastInDim S1x256 ![1] bcast_S256_S1x256_1 : (⟨S256, .f32⟩ : BufTy).Contents (Elt F) → (⟨S1x256, .f32⟩ : BufTy).Contents (Elt F)),
    StableHlo.unary main_v1758 main_v1759 (broadcastInDim S2048x256 ![0, 1] bcast_S1x256_S2048x256_0_1 : (⟨S1x256, .f32⟩ : BufTy).Contents (Elt F) → (⟨S2048x256, .f32⟩ : BufTy).Contents (Elt F)),
    StableHlo.binary main_v1757 main_v1759 main_v1760 (addf : (⟨S2048x256, .f32⟩ : BufTy).Contents (Elt F) → (⟨S2048x256, .f32⟩ : BufTy).Contents (Elt F) → (⟨S2048x256, .f32⟩ : BufTy).Contents (Elt F)),
    StableHlo.TRef.nullary main_call84.cst (constant S_ .f32 0x00000000#32),
    StableHlo.TRef.unary main_call84.cst main_call84.v0 (broadcastInDim S2048x256 ![] bcast_S_S2048x256),
    StableHlo.TRef.binary (StableHlo.TRef.of (T := ⟨S2048x256, .f32⟩) main_v1760) main_call84.v0 main_call84.v1 (cmpf .ogt),
    StableHlo.TRef.nullary main_call84.cst_0 (constant S_ .f32 0x00000000#32),
    StableHlo.TRef.unary main_call84.cst_0 main_call84.v2 (broadcastInDim S2048x256 ![] bcast_S_S2048x256),
    StableHlo.TRef.binary (StableHlo.TRef.of (T := ⟨S2048x256, .f32⟩) main_v1760) main_call84.v2 main_call84.v3 (cmpf .ogt),
    StableHlo.TRef.nullary main_call84.cst_1 (constant S_ .f32 0x00000000#32),
    StableHlo.TRef.unary main_call84.cst_1 main_call84.call0.v0 id,
    StableHlo.TRef.unary main_call84.call0.v0 main_call84.call0.v1 (broadcastInDim S2048x256 ![] bcast_S_S2048x256),
    StableHlo.TRef.ternary main_call84.v3 main_call84.call0.v1 (StableHlo.TRef.of (T := ⟨S2048x256, .f32⟩) main_v1760) main_call84.call0.v2 select,
    StableHlo.TRef.unary main_call84.call0.v2 main_call84.v5 Host.expm1,
    StableHlo.TRef.nullary main_call84.cst_2 (constant S_ .f32 0x3F800000#32),
    StableHlo.TRef.unary main_call84.cst_2 main_call84.v6 (broadcastInDim S2048x256 ![] bcast_S_S2048x256),
    StableHlo.TRef.binary main_call84.v6 main_call84.v5 main_call84.v7 mulf,
    StableHlo.TRef.ternary main_call84.v1 (StableHlo.TRef.of (T := ⟨S2048x256, .f32⟩) main_v1760) main_call84.v7 main_call84.call1.v0 select,
    StableHlo.unary main_arg2 main_v1762 ((transpose S32x256 [1, 0] · transposes_S256x32_S32x256_1_0) : (⟨S256x32, .f32⟩ : BufTy).Contents (Elt F) → (⟨S32x256, .f32⟩ : BufTy).Contents (Elt F)),
    StableHlo.binary main_v1218 main_v1762 main_v1763 ((fun l r => Host.dotGeneral dot_S2048x32_S32x256_S2048x256_1_0_0_1_n_n none l r) : (⟨S2048x32, .f32⟩ : BufTy).Contents (Elt F) → (⟨S32x256, .f32⟩ : BufTy).Contents (Elt F) → (⟨S2048x256, .f32⟩ : BufTy).Contents (Elt F)),
    StableHlo.unary main_arg3 main_v1764 (broadcastInDim S1x256 ![1] bcast_S256_S1x256_1 : (⟨S256, .f32⟩ : BufTy).Contents (Elt F) → (⟨S1x256, .f32⟩ : BufTy).Contents (Elt F)),
    StableHlo.unary main_v1764 main_v1765 (broadcastInDim S2048x256 ![0, 1] bcast_S1x256_S2048x256_0_1 : (⟨S1x256, .f32⟩ : BufTy).Contents (Elt F) → (⟨S2048x256, .f32⟩ : BufTy).Contents (Elt F)),
    StableHlo.binary main_v1763 main_v1765 main_v1766 (addf : (⟨S2048x256, .f32⟩ : BufTy).Contents (Elt F) → (⟨S2048x256, .f32⟩ : BufTy).Contents (Elt F) → (⟨S2048x256, .f32⟩ : BufTy).Contents (Elt F)),
    StableHlo.TRef.nullary main_call85.cst (constant S_ .f32 0x00000000#32),
    StableHlo.TRef.unary main_call85.cst main_call85.v0 (broadcastInDim S2048x256 ![] bcast_S_S2048x256),
    StableHlo.TRef.binary (StableHlo.TRef.of (T := ⟨S2048x256, .f32⟩) main_v1766) main_call85.v0 main_call85.v1 (cmpf .ogt),
    StableHlo.TRef.nullary main_call85.cst_0 (constant S_ .f32 0x00000000#32),
    StableHlo.TRef.unary main_call85.cst_0 main_call85.v2 (broadcastInDim S2048x256 ![] bcast_S_S2048x256),
    StableHlo.TRef.binary (StableHlo.TRef.of (T := ⟨S2048x256, .f32⟩) main_v1766) main_call85.v2 main_call85.v3 (cmpf .ogt),
    StableHlo.TRef.nullary main_call85.cst_1 (constant S_ .f32 0x00000000#32),
    StableHlo.TRef.unary main_call85.cst_1 main_call85.call0.v0 id,
    StableHlo.TRef.unary main_call85.call0.v0 main_call85.call0.v1 (broadcastInDim S2048x256 ![] bcast_S_S2048x256),
    StableHlo.TRef.ternary main_call85.v3 main_call85.call0.v1 (StableHlo.TRef.of (T := ⟨S2048x256, .f32⟩) main_v1766) main_call85.call0.v2 select,
    StableHlo.TRef.unary main_call85.call0.v2 main_call85.v5 Host.expm1,
    StableHlo.TRef.nullary main_call85.cst_2 (constant S_ .f32 0x3F800000#32),
    StableHlo.TRef.unary main_call85.cst_2 main_call85.v6 (broadcastInDim S2048x256 ![] bcast_S_S2048x256),
    StableHlo.TRef.binary main_call85.v6 main_call85.v5 main_call85.v7 mulf,
    StableHlo.TRef.ternary main_call85.v1 (StableHlo.TRef.of (T := ⟨S2048x256, .f32⟩) main_v1766) main_call85.v7 main_call85.call1.v0 select,
    StableHlo.unary main_arg2 main_v1768 ((transpose S32x256 [1, 0] · transposes_S256x32_S32x256_1_0) : (⟨S256x32, .f32⟩ : BufTy).Contents (Elt F) → (⟨S32x256, .f32⟩ : BufTy).Contents (Elt F)),
    StableHlo.binary main_v1755 main_v1768 main_v1769 ((fun l r => Host.dotGeneral dot_S2048x32_S32x256_S2048x256_1_0_0_1_n_n none l r) : (⟨S2048x32, .f32⟩ : BufTy).Contents (Elt F) → (⟨S32x256, .f32⟩ : BufTy).Contents (Elt F) → (⟨S2048x256, .f32⟩ : BufTy).Contents (Elt F)),
    StableHlo.unary main_arg3 main_v1770 (broadcastInDim S1x256 ![1] bcast_S256_S1x256_1 : (⟨S256, .f32⟩ : BufTy).Contents (Elt F) → (⟨S1x256, .f32⟩ : BufTy).Contents (Elt F)),
    StableHlo.unary main_v1770 main_v1771 (broadcastInDim S2048x256 ![0, 1] bcast_S1x256_S2048x256_0_1 : (⟨S1x256, .f32⟩ : BufTy).Contents (Elt F) → (⟨S2048x256, .f32⟩ : BufTy).Contents (Elt F)),
    StableHlo.binary main_v1769 main_v1771 main_v1772 (addf : (⟨S2048x256, .f32⟩ : BufTy).Contents (Elt F) → (⟨S2048x256, .f32⟩ : BufTy).Contents (Elt F) → (⟨S2048x256, .f32⟩ : BufTy).Contents (Elt F)),
    StableHlo.TRef.nullary main_call86.cst (constant S_ .f32 0x00000000#32),
    StableHlo.TRef.unary main_call86.cst main_call86.v0 (broadcastInDim S2048x256 ![] bcast_S_S2048x256),
    StableHlo.TRef.binary (StableHlo.TRef.of (T := ⟨S2048x256, .f32⟩) main_v1772) main_call86.v0 main_call86.v1 (cmpf .ogt),
    StableHlo.TRef.nullary main_call86.cst_0 (constant S_ .f32 0x00000000#32),
    StableHlo.TRef.unary main_call86.cst_0 main_call86.v2 (broadcastInDim S2048x256 ![] bcast_S_S2048x256),
    StableHlo.TRef.binary (StableHlo.TRef.of (T := ⟨S2048x256, .f32⟩) main_v1772) main_call86.v2 main_call86.v3 (cmpf .ogt),
    StableHlo.TRef.nullary main_call86.cst_1 (constant S_ .f32 0x00000000#32),
    StableHlo.TRef.unary main_call86.cst_1 main_call86.call0.v0 id,
    StableHlo.TRef.unary main_call86.call0.v0 main_call86.call0.v1 (broadcastInDim S2048x256 ![] bcast_S_S2048x256),
    StableHlo.TRef.ternary main_call86.v3 main_call86.call0.v1 (StableHlo.TRef.of (T := ⟨S2048x256, .f32⟩) main_v1772) main_call86.call0.v2 select,
    StableHlo.TRef.unary main_call86.call0.v2 main_call86.v5 Host.expm1,
    StableHlo.TRef.nullary main_call86.cst_2 (constant S_ .f32 0x3F800000#32),
    StableHlo.TRef.unary main_call86.cst_2 main_call86.v6 (broadcastInDim S2048x256 ![] bcast_S_S2048x256),
    StableHlo.TRef.binary main_call86.v6 main_call86.v5 main_call86.v7 mulf,
    StableHlo.TRef.ternary main_call86.v1 (StableHlo.TRef.of (T := ⟨S2048x256, .f32⟩) main_v1772) main_call86.v7 main_call86.call1.v0 select,
    StableHlo.unary main_arg10 main_v1774 ((extractStridedSlice S1x16x16 ![0, 0, 0] · slices_S3x16x16_S1x16x16_0_0_0) : (⟨S3x16x16, .f32⟩ : BufTy).Contents (Elt F) → (⟨S1x16x16, .f32⟩ : BufTy).Contents (Elt F)),
    StableHlo.reshape main_v1774 main_v1775 rfl shapeCasts_S1x16x16_S16x16,
    StableHlo.binary main_v1775 main_arg9 main_v1776 ((fun l r => Host.dotGeneral dot_S16x16_S16x2_S16x2_1_0_0_1_n_n none l r) : (⟨S16x16, .f32⟩ : BufTy).Contents (Elt F) → (⟨S16x2, .f32⟩ : BufTy).Contents (Elt F) → (⟨S16x2, .f32⟩ : BufTy).Contents (Elt F)),
    StableHlo.unary main_arg11 main_v1777 ((extractStridedSlice S1x16x16 ![0, 0, 0] · slices_S3x16x16_S1x16x16_0_0_0) : (⟨S3x16x16, .f32⟩ : BufTy).Contents (Elt F) → (⟨S1x16x16, .f32⟩ : BufTy).Contents (Elt F)),
    StableHlo.reshape main_v1777 main_v1778 rfl shapeCasts_S1x16x16_S16x16 ]

set_option maxRecDepth 16384 in
set_option maxHeartbeats 4000000 in
/-- The window is that line: the called functions unfold at their calls and sequencing re-associates. -/
theorem main_part35_eq (c : Dev nD) : main_part35 (F := F) c = StableHlo.seq ops_part35 := rfl

set_option maxRecDepth 16384 in
set_option maxHeartbeats 4000000 in
/-- Every operation of the window is good; the result's index is compared by computation. -/
theorem ops_part35_good : (ops_part35 : List (HloOp τ sig (Elt F))).Forall (Good 12) :=
  ⟨binary_good (h := by decide) .., nullary_good (h := by decide) .., binary_good (h := by decide) .., nullary_good (h := by decide) ..,
    binary_good (h := by decide) .., binary_good (h := by decide) .., unary_good (h := by decide) .., binary_good (h := by decide) ..,
    nullary_good (h := by decide) .., binary_good (h := by decide) .., unary_good (h := by decide) .., binary_good (h := by decide) ..,
    nullary_good (h := by decide) .., unary_good (h := by decide) .., binary_good (h := by decide) .., unary_good (h := by decide) ..,
    binary_good (h := by decide) .., nullary_good (h := by decide) .., unary_good (h := by decide) .., unary_good (h := by decide) ..,
    ternary_good (h := by decide) .., nullary_good (h := by decide) .., binary_good (h := by decide) .., nullary_good (h := by decide) ..,
    unary_good (h := by decide) .., binary_good (h := by decide) .., unary_good (h := by decide) .., unary_good (h := by decide) ..,
    binary_good (h := by decide) .., unary_good (h := by decide) .., nullary_good (h := by decide) .., binary_good (h := by decide) ..,
    unary_good (h := by decide) .., unary_good (h := by decide) .., binary_good (h := by decide) .., unary_good (h := by decide) ..,
    binary_good (h := by decide) .., nullary_good (h := by decide) .., unary_good (h := by decide) .., binary_good (h := by decide) ..,
    nullary_good (h := by decide) .., unary_good (h := by decide) .., binary_good (h := by decide) .., nullary_good (h := by decide) ..,
    unary_good (h := by decide) .., unary_good (h := by decide) .., ternary_good (h := by decide) .., unary_good (h := by decide) ..,
    nullary_good (h := by decide) .., unary_good (h := by decide) .., binary_good (h := by decide) .., ternary_good (h := by decide) ..,
    nary_good (h := by decide) .., unary_good (h := by decide) .., binary_good (h := by decide) .., unary_good (h := by decide) ..,
    unary_good (h := by decide) .., binary_good (h := by decide) .., nullary_good (h := by decide) .., unary_good (h := by decide) ..,
    binary_good (h := by decide) .., nullary_good (h := by decide) .., unary_good (h := by decide) .., binary_good (h := by decide) ..,
    nullary_good (h := by decide) .., unary_good (h := by decide) .., unary_good (h := by decide) .., ternary_good (h := by decide) ..,
    unary_good (h := by decide) .., nullary_good (h := by decide) .., unary_good (h := by decide) .., binary_good (h := by decide) ..,
    ternary_good (h := by decide) .., unary_good (h := by decide) .., binary_good (h := by decide) .., unary_good (h := by decide) ..,
    unary_good (h := by decide) .., binary_good (h := by decide) .., nullary_good (h := by decide) .., unary_good (h := by decide) ..,
    binary_good (h := by decide) .., nullary_good (h := by decide) .., unary_good (h := by decide) .., binary_good (h := by decide) ..,
    nullary_good (h := by decide) .., unary_good (h := by decide) .., unary_good (h := by decide) .., ternary_good (h := by decide) ..,
    unary_good (h := by decide) .., nullary_good (h := by decide) .., unary_good (h := by decide) .., binary_good (h := by decide) ..,
    ternary_good (h := by decide) .., unary_good (h := by decide) .., binary_good (h := by decide) .., unary_good (h := by decide) ..,
    unary_good (h := by decide) .., binary_good (h := by decide) .., nullary_good (h := by decide) .., unary_good (h := by decide) ..,
    binary_good (h := by decide) .., nullary_good (h := by decide) .., unary_good (h := by decide) .., binary_good (h := by decide) ..,
    nullary_good (h := by decide) .., unary_good (h := by decide) .., unary_good (h := by decide) .., ternary_good (h := by decide) ..,
    unary_good (h := by decide) .., nullary_good (h := by decide) .., unary_good (h := by decide) .., binary_good (h := by decide) ..,
    ternary_good (h := by decide) .., unary_good (h := by decide) .., reshape_good (h := by decide) .., binary_good (h := by decide) ..,
    unary_good (h := by decide) .., reshape_good (h := by decide) ..⟩

end Cert.ReferenceIdeal.Hand

end
-- ==== Proof.Ref.W36.lean ====
import proofs.«146970_j35948876268088_1_alg».proof.ReferenceIdeal.P06
import proofs.«146970_j35948876268088_1_alg».proof.Proof.Ref.Keep

noncomputable section

namespace Cert.ReferenceIdeal.Hand

open Cert.ReferenceIdeal Idealize.ShloMosaic Idealize.ShloMosaic.TcCoe Idealize.SL.Sem Idealize.ShloMosaic.StableHlo

variable {F : FTy → Type} [FloatOps F]

variable [Facts]
open Facts₀ Facts

set_option maxHeartbeats 4000000 in
/-- The operations of window 36, in order; a called function's operations stand in its call's place. -/
abbrev ops_part36 : List (HloOp τ sig (Elt F)) :=
  [ StableHlo.binary main_v1778 main_arg9 main_v1779 ((fun l r => Host.dotGeneral dot_S16x16_S16x2_S16x2_1_0_0_1_n_n none l r) : (⟨S16x16, .f32⟩ : BufTy).Contents (Elt F) → (⟨S16x2, .f32⟩ : BufTy).Contents (Elt F) → (⟨S16x2, .f32⟩ : BufTy).Contents (Elt F)),
    StableHlo.binary main_v1776 main_v1779 main_v1780 (addf : (⟨S16x2, .f32⟩ : BufTy).Contents (Elt F) → (⟨S16x2, .f32⟩ : BufTy).Contents (Elt F) → (⟨S16x2, .f32⟩ : BufTy).Contents (Elt F)),
    StableHlo.unary main_v1780 main_v1781 (Host.negf : (⟨S16x2, .f32⟩ : BufTy).Contents (Elt F) → (⟨S16x2, .f32⟩ : BufTy).Contents (Elt F)),
    StableHlo.unary main_v1781 main_v1782 (Host.exp : (⟨S16x2, .f32⟩ : BufTy).Contents (Elt F) → (⟨S16x2, .f32⟩ : BufTy).Contents (Elt F)),
    StableHlo.nullary main_cst_379 (constant S_ .f32 0x3F800000#32),
    StableHlo.unary main_cst_379 main_v1783 (broadcastInDim S16x2 ![] bcast_S_S16x2 : (⟨S_, .f32⟩ : BufTy).Contents (Elt F) → (⟨S16x2, .f32⟩ : BufTy).Contents (Elt F)),
    StableHlo.binary main_v1783 main_v1782 main_v1784 (addf : (⟨S16x2, .f32⟩ : BufTy).Contents (Elt F) → (⟨S16x2, .f32⟩ : BufTy).Contents (Elt F) → (⟨S16x2, .f32⟩ : BufTy).Contents (Elt F)),
    StableHlo.nullary main_cst_380 (constant S_ .f32 0x3F800000#32),
    StableHlo.unary main_cst_380 main_v1785 (broadcastInDim S16x2 ![] bcast_S_S16x2 : (⟨S_, .f32⟩ : BufTy).Contents (Elt F) → (⟨S16x2, .f32⟩ : BufTy).Contents (Elt F)),
    StableHlo.binary main_v1785 main_v1784 main_v1786 (Host.divf : (⟨S16x2, .f32⟩ : BufTy).Contents (Elt F) → (⟨S16x2, .f32⟩ : BufTy).Contents (Elt F) → (⟨S16x2, .f32⟩ : BufTy).Contents (Elt F)),
    StableHlo.unary main_arg10 main_v1787 ((extractStridedSlice S1x16x16 ![1, 0, 0] · slices_S3x16x16_S1x16x16_1_0_0) : (⟨S3x16x16, .f32⟩ : BufTy).Contents (Elt F) → (⟨S1x16x16, .f32⟩ : BufTy).Contents (Elt F)),
    StableHlo.reshape main_v1787 main_v1788 rfl shapeCasts_S1x16x16_S16x16,
    StableHlo.binary main_v1788 main_arg9 main_v1789 ((fun l r => Host.dotGeneral dot_S16x16_S16x2_S16x2_1_0_0_1_n_n none l r) : (⟨S16x16, .f32⟩ : BufTy).Contents (Elt F) → (⟨S16x2, .f32⟩ : BufTy).Contents (Elt F) → (⟨S16x2, .f32⟩ : BufTy).Contents (Elt F)),
    StableHlo.unary main_arg11 main_v1790 ((extractStridedSlice S1x16x16 ![1, 0, 0] · slices_S3x16x16_S1x16x16_1_0_0) : (⟨S3x16x16, .f32⟩ : BufTy).Contents (Elt F) → (⟨S1x16x16, .f32⟩ : BufTy).Contents (Elt F)),
    StableHlo.reshape main_v1790 main_v1791 rfl shapeCasts_S1x16x16_S16x16,
    StableHlo.binary main_v1791 main_arg9 main_v1792 ((fun l r => Host.dotGeneral dot_S16x16_S16x2_S16x2_1_0_0_1_n_n none l r) : (⟨S16x16, .f32⟩ : BufTy).Contents (Elt F) → (⟨S16x2, .f32⟩ : BufTy).Contents (Elt F) → (⟨S16x2, .f32⟩ : BufTy).Contents (Elt F)),
    StableHlo.binary main_v1789 main_v1792 main_v1793 (addf : (⟨S16x2, .f32⟩ : BufTy).Contents (Elt F) → (⟨S16x2, .f32⟩ : BufTy).Contents (Elt F) → (⟨S16x2, .f32⟩ : BufTy).Contents (Elt F)),
    StableHlo.unary main_v1793 main_v1794 (Host.negf : (⟨S16x2, .f32⟩ : BufTy).Contents (Elt F) → (⟨S16x2, .f32⟩ : BufTy).Contents (Elt F)),
    StableHlo.unary main_v1794 main_v1795 (Host.exp : (⟨S16x2, .f32⟩ : BufTy).Contents (Elt F) → (⟨S16x2, .f32⟩ : BufTy).Contents (Elt F)),
    StableHlo.nullary main_cst_381 (constant S_ .f32 0x3F800000#32),
    StableHlo.unary main_cst_381 main_v1796 (broadcastInDim S16x2 ![] bcast_S_S16x2 : (⟨S_, .f32⟩ : BufTy).Contents (Elt F) → (⟨S16x2, .f32⟩ : BufTy).Contents (Elt F)),
    StableHlo.binary main_v1796 main_v1795 main_v1797 (addf : (⟨S16x2, .f32⟩ : BufTy).Contents (Elt F) → (⟨S16x2, .f32⟩ : BufTy).Contents (Elt F) → (⟨S16x2, .f32⟩ : BufTy).Contents (Elt F)),
    StableHlo.nullary main_cst_382 (constant S_ .f32 0x3F800000#32),
    StableHlo.unary main_cst_382 main_v1798 (broadcastInDim S16x2 ![] bcast_S_S16x2 : (⟨S_, .f32⟩ : BufTy).Contents (Elt F) → (⟨S16x2, .f32⟩ : BufTy).Contents (Elt F)),
    StableHlo.binary main_v1798 main_v1797 main_v1799 (Host.divf : (⟨S16x2, .f32⟩ : BufTy).Contents (Elt F) → (⟨S16x2, .f32⟩ : BufTy).Contents (Elt F) → (⟨S16x2, .f32⟩ : BufTy).Contents (Elt F)),
    StableHlo.unary main_arg10 main_v1800 ((extractStridedSlice S1x16x16 ![2, 0, 0] · slices_S3x16x16_S1x16x16_2_0_0) : (⟨S3x16x16, .f32⟩ : BufTy).Contents (Elt F) → (⟨S1x16x16, .f32⟩ : BufTy).Contents (Elt F)),
    StableHlo.reshape main_v1800 main_v1801 rfl shapeCasts_S1x16x16_S16x16,
    StableHlo.binary main_v1801 main_arg9 main_v1802 ((fun l r => Host.dotGeneral dot_S16x16_S16x2_S16x2_1_0_0_1_n_n none l r) : (⟨S16x16, .f32⟩ : BufTy).Contents (Elt F) → (⟨S16x2, .f32⟩ : BufTy).Contents (Elt F) → (⟨S16x2, .f32⟩ : BufTy).Contents (Elt F)),
    StableHlo.unary main_arg11 main_v1803 ((extractStridedSlice S1x16x16 ![2, 0, 0] · slices_S3x16x16_S1x16x16_2_0_0) : (⟨S3x16x16, .f32⟩ : BufTy).Contents (Elt F) → (⟨S1x16x16, .f32⟩ : BufTy).Contents (Elt F)),
    StableHlo.reshape main_v1803 main_v1804 rfl shapeCasts_S1x16x16_S16x16,
    StableHlo.binary main_v1799 main_arg9 main_v1805 (mulf : (⟨S16x2, .f32⟩ : BufTy).Contents (Elt F) → (⟨S16x2, .f32⟩ : BufTy).Contents (Elt F) → (⟨S16x2, .f32⟩ : BufTy).Contents (Elt F)),
    StableHlo.binary main_v1804 main_v1805 main_v1806 ((fun l r => Host.dotGeneral dot_S16x16_S16x2_S16x2_1_0_0_1_n_n none l r) : (⟨S16x16, .f32⟩ : BufTy).Contents (Elt F) → (⟨S16x2, .f32⟩ : BufTy).Contents (Elt F) → (⟨S16x2, .f32⟩ : BufTy).Contents (Elt F)),
    StableHlo.binary main_v1802 main_v1806 main_v1807 (addf : (⟨S16x2, .f32⟩ : BufTy).Contents (Elt F) → (⟨S16x2, .f32⟩ : BufTy).Contents (Elt F) → (⟨S16x2, .f32⟩ : BufTy).Contents (Elt F)),
    StableHlo.unary main_v1807 main_v1808 (Host.tanh : (⟨S16x2, .f32⟩ : BufTy).Contents (Elt F) → (⟨S16x2, .f32⟩ : BufTy).Contents (Elt F)),
    StableHlo.nullary main_cst_383 (constant S_ .f32 0x3F800000#32),
    StableHlo.unary main_cst_383 main_v1809 (broadcastInDim S16x2 ![] bcast_S_S16x2 : (⟨S_, .f32⟩ : BufTy).Contents (Elt F) → (⟨S16x2, .f32⟩ : BufTy).Contents (Elt F)),
    StableHlo.binary main_v1809 main_v1786 main_v1810 (subf : (⟨S16x2, .f32⟩ : BufTy).Contents (Elt F) → (⟨S16x2, .f32⟩ : BufTy).Contents (Elt F) → (⟨S16x2, .f32⟩ : BufTy).Contents (Elt F)),
    StableHlo.binary main_v1810 main_arg9 main_v1811 (mulf : (⟨S16x2, .f32⟩ : BufTy).Contents (Elt F) → (⟨S16x2, .f32⟩ : BufTy).Contents (Elt F) → (⟨S16x2, .f32⟩ : BufTy).Contents (Elt F)),
    StableHlo.binary main_v1786 main_v1808 main_v1812 (mulf : (⟨S16x2, .f32⟩ : BufTy).Contents (Elt F) → (⟨S16x2, .f32⟩ : BufTy).Contents (Elt F) → (⟨S16x2, .f32⟩ : BufTy).Contents (Elt F)),
    StableHlo.binary main_v1811 main_v1812 main_v1813 (addf : (⟨S16x2, .f32⟩ : BufTy).Contents (Elt F) → (⟨S16x2, .f32⟩ : BufTy).Contents (Elt F) → (⟨S16x2, .f32⟩ : BufTy).Contents (Elt F)),
    StableHlo.unary main_v1813 main_v1814 ((extractStridedSlice S16x1 ![0, 0] · slices_S16x2_S16x1_0_0) : (⟨S16x2, .f32⟩ : BufTy).Contents (Elt F) → (⟨S16x1, .f32⟩ : BufTy).Contents (Elt F)),
    StableHlo.unary main_v1813 main_v1815 ((extractStridedSlice S16x1 ![0, 1] · slices_S16x2_S16x1_0_1) : (⟨S16x2, .f32⟩ : BufTy).Contents (Elt F) → (⟨S16x1, .f32⟩ : BufTy).Contents (Elt F)),
    StableHlo.reshape main_arg8 main_v1816 rfl shapeCasts_S1x256x8_S256x8,
    StableHlo.binary main_v1761 main_v1761 main_v1817 (mulf : (⟨S2048x256, .f32⟩ : BufTy).Contents (Elt F) → (⟨S2048x256, .f32⟩ : BufTy).Contents (Elt F) → (⟨S2048x256, .f32⟩ : BufTy).Contents (Elt F)),
    StableHlo.nullary main_cst_384 (constant S_ .f32 0x00000000#32),
    StableHlo.binary main_v1817 main_cst_384 main_v1818 ((fun x v => Host.reduceAdd x v reducesTo_S2048x256_S2048_d1 h_S_) : (⟨S2048x256, .f32⟩ : BufTy).Contents (Elt F) → (⟨S_, .f32⟩ : BufTy).Contents (Elt F) → (⟨S2048, .f32⟩ : BufTy).Contents (Elt F)),
    StableHlo.unary main_v1818 main_v1819 (Host.sqrt : (⟨S2048, .f32⟩ : BufTy).Contents (Elt F) → (⟨S2048, .f32⟩ : BufTy).Contents (Elt F)),
    StableHlo.unary main_v1761 main_v1820 ((transpose S256x2048 [1, 0] · transposes_S2048x256_S256x2048_1_0) : (⟨S2048x256, .f32⟩ : BufTy).Contents (Elt F) → (⟨S256x2048, .f32⟩ : BufTy).Contents (Elt F)),
    StableHlo.binary main_v1761 main_v1820 main_v1821 ((fun l r => Host.dotGeneral dot_S2048x256_S256x2048_S2048x2048_1_0_0_1_n_n none l r) : (⟨S2048x256, .f32⟩ : BufTy).Contents (Elt F) → (⟨S256x2048, .f32⟩ : BufTy).Contents (Elt F) → (⟨S2048x2048, .f32⟩ : BufTy).Contents (Elt F)),
    StableHlo.unary main_v1819 main_v1822 (broadcastInDim S2048x1 ![0] bcast_S2048_S2048x1_0 : (⟨S2048, .f32⟩ : BufTy).Contents (Elt F) → (⟨S2048x1, .f32⟩ : BufTy).Contents (Elt F)),
    StableHlo.unary main_v1819 main_v1823 (broadcastInDim S1x2048 ![1] bcast_S2048_S1x2048_1 : (⟨S2048, .f32⟩ : BufTy).Contents (Elt F) → (⟨S1x2048, .f32⟩ : BufTy).Contents (Elt F)),
    StableHlo.unary main_v1822 main_v1824 (broadcastInDim S2048x2048 ![0, 1] bcast_S2048x1_S2048x2048_0_1 : (⟨S2048x1, .f32⟩ : BufTy).Contents (Elt F) → (⟨S2048x2048, .f32⟩ : BufTy).Contents (Elt F)),
    StableHlo.unary main_v1823 main_v1825 (broadcastInDim S2048x2048 ![0, 1] bcast_S1x2048_S2048x2048_0_1 : (⟨S1x2048, .f32⟩ : BufTy).Contents (Elt F) → (⟨S2048x2048, .f32⟩ : BufTy).Contents (Elt F)),
    StableHlo.binary main_v1824 main_v1825 main_v1826 (mulf : (⟨S2048x2048, .f32⟩ : BufTy).Contents (Elt F) → (⟨S2048x2048, .f32⟩ : BufTy).Contents (Elt F) → (⟨S2048x2048, .f32⟩ : BufTy).Contents (Elt F)),
    StableHlo.binary main_v1821 main_v1826 main_v1827 (Host.divf : (⟨S2048x2048, .f32⟩ : BufTy).Contents (Elt F) → (⟨S2048x2048, .f32⟩ : BufTy).Contents (Elt F) → (⟨S2048x2048, .f32⟩ : BufTy).Contents (Elt F)),
    StableHlo.nullary main_v1828 (iotaInDim S2048x2048 32 0),
    StableHlo.nullary main_v1829 (iotaInDim S2048x2048 32 1),
    StableHlo.nullary main_c_385 (constantI S_ 32 0#32),
    StableHlo.unary main_c_385 main_v1830 (broadcastInDim S2048x2048 ![] bcast_S_S2048x2048 : (⟨S_, .i32⟩ : BufTy).Contents (Elt F) → (⟨S2048x2048, .i32⟩ : BufTy).Contents (Elt F)),
    StableHlo.binary main_v1828 main_v1830 main_v1831 (addi : (⟨S2048x2048, .i32⟩ : BufTy).Contents (Elt F) → (⟨S2048x2048, .i32⟩ : BufTy).Contents (Elt F) → (⟨S2048x2048, .i32⟩ : BufTy).Contents (Elt F)) ]

set_option maxRecDepth 16384 in
set_option maxHeartbeats 4000000 in
/-- The window is that line: the called functions unfold at their calls and sequencing re-associates. -/
theorem main_part36_eq (c : Dev nD) : main_part36 (F := F) c = StableHlo.seq ops_part36 := rfl

set_option maxRecDepth 16384 in
set_option maxHeartbeats 4000000 in
/-- Every operation of the window is good; the result's index is compared by computation. -/
theorem ops_part36_good : (ops_part36 : List (HloOp τ sig (Elt F))).Forall (Good 12) :=
  ⟨binary_good (h := by decide) .., binary_good (h := by decide) .., unary_good (h := by decide) .., unary_good (h := by decide) ..,
    nullary_good (h := by decide) .., unary_good (h := by decide) .., binary_good (h := by decide) .., nullary_good (h := by decide) ..,
    unary_good (h := by decide) .., binary_good (h := by decide) .., unary_good (h := by decide) .., reshape_good (h := by decide) ..,
    binary_good (h := by decide) .., unary_good (h := by decide) .., reshape_good (h := by decide) .., binary_good (h := by decide) ..,
    binary_good (h := by decide) .., unary_good (h := by decide) .., unary_good (h := by decide) .., nullary_good (h := by decide) ..,
    unary_good (h := by decide) .., binary_good (h := by decide) .., nullary_good (h := by decide) .., unary_good (h := by decide) ..,
    binary_good (h := by decide) .., unary_good (h := by decide) .., reshape_good (h := by decide) .., binary_good (h := by decide) ..,
    unary_good (h := by decide) .., reshape_good (h := by decide) .., binary_good (h := by decide) .., binary_good (h := by decide) ..,
    binary_good (h := by decide) .., unary_good (h := by decide) .., nullary_good (h := by decide) .., unary_good (h := by decide) ..,
    binary_good (h := by decide) .., binary_good (h := by decide) .., binary_good (h := by decide) .., binary_good (h := by decide) ..,
    unary_good (h := by decide) .., unary_good (h := by decide) .., reshape_good (h := by decide) .., binary_good (h := by decide) ..,
    nullary_good (h := by decide) .., binary_good (h := by decide) .., unary_good (h := by decide) .., unary_good (h := by decide) ..,
    binary_good (h := by decide) .., unary_good (h := by decide) .., unary_good (h := by decide) .., unary_good (h := by decide) ..,
    unary_good (h := by decide) .., binary_good (h := by decide) .., binary_good (h := by decide) .., nullary_good (h := by decide) ..,
    nullary_good (h := by decide) .., nullary_good (h := by decide) .., unary_good (h := by decide) .., binary_good (h := by decide) ..⟩

end Cert.ReferenceIdeal.Hand

end
-- ==== Proof.Ref.W37.lean ====
import proofs.«146970_j35948876268088_1_alg».proof.ReferenceIdeal.P06
import proofs.«146970_j35948876268088_1_alg».proof.Proof.Ref.Keep

noncomputable section

namespace Cert.ReferenceIdeal.Hand

open Cert.ReferenceIdeal Idealize.ShloMosaic Idealize.ShloMosaic.TcCoe Idealize.SL.Sem Idealize.ShloMosaic.StableHlo

variable {F : FTy → Type} [FloatOps F]

variable [Facts]
open Facts₀ Facts

set_option maxHeartbeats 4000000 in
/-- The operations of window 37, in order; a called function's operations stand in its call's place. -/
abbrev ops_part37 : List (HloOp τ sig (Elt F)) :=
  [ StableHlo.binary main_v1831 main_v1829 main_v1832 (cmpi .eq : (⟨S2048x2048, .i32⟩ : BufTy).Contents (Elt F) → (⟨S2048x2048, .i32⟩ : BufTy).Contents (Elt F) → (⟨S2048x2048, .i1⟩ : BufTy).Contents (Elt F)),
    StableHlo.unary main_v1832 main_v1833 (uitofp .f32 : (⟨S2048x2048, .i1⟩ : BufTy).Contents (Elt F) → (⟨S2048x2048, .f32⟩ : BufTy).Contents (Elt F)),
    StableHlo.nullary main_cst_386 (constant S_ .f32 0x3F800000#32),
    StableHlo.unary main_cst_386 main_v1834 (broadcastInDim S2048x2048 ![] bcast_S_S2048x2048 : (⟨S_, .f32⟩ : BufTy).Contents (Elt F) → (⟨S2048x2048, .f32⟩ : BufTy).Contents (Elt F)),
    StableHlo.binary main_v1834 main_v1833 main_v1835 (subf : (⟨S2048x2048, .f32⟩ : BufTy).Contents (Elt F) → (⟨S2048x2048, .f32⟩ : BufTy).Contents (Elt F) → (⟨S2048x2048, .f32⟩ : BufTy).Contents (Elt F)),
    StableHlo.nullary main_cst_387 (constant S_ .f32 0x3F000000#32),
    StableHlo.unary main_cst_387 main_v1836 (broadcastInDim S2048x2048 ![] bcast_S_S2048x2048 : (⟨S_, .f32⟩ : BufTy).Contents (Elt F) → (⟨S2048x2048, .f32⟩ : BufTy).Contents (Elt F)),
    StableHlo.binary main_v1827 main_v1836 main_v1837 (cmpf .ogt : (⟨S2048x2048, .f32⟩ : BufTy).Contents (Elt F) → (⟨S2048x2048, .f32⟩ : BufTy).Contents (Elt F) → (⟨S2048x2048, .i1⟩ : BufTy).Contents (Elt F)),
    StableHlo.nullary main_cst_388 (constant S_ .f32 0x00000000#32),
    StableHlo.TRef.unary (StableHlo.TRef.of (T := ⟨S_, .f32⟩) main_cst_388) main_call87.v0 id,
    StableHlo.TRef.unary main_call87.v0 main_call87.v1 (broadcastInDim S2048x2048 ![] bcast_S_S2048x2048),
    StableHlo.TRef.ternary (StableHlo.TRef.of (T := ⟨S2048x2048, .i1⟩) main_v1837) (StableHlo.TRef.of (T := ⟨S2048x2048, .f32⟩) main_v1827) main_call87.v1 main_call87.v2 select,
    StableHlo.binary main_v1838 main_v1835 main_v1839 (mulf : (⟨S2048x2048, .f32⟩ : BufTy).Contents (Elt F) → (⟨S2048x2048, .f32⟩ : BufTy).Contents (Elt F) → (⟨S2048x2048, .f32⟩ : BufTy).Contents (Elt F)),
    StableHlo.unary main_v26 main_v1840 ((transpose S2048x2048 [1, 0] · transposes_S2048x2048_S2048x2048_1_0) : (⟨S2048x2048, .f32⟩ : BufTy).Contents (Elt F) → (⟨S2048x2048, .f32⟩ : BufTy).Contents (Elt F)),
    StableHlo.binary main_v26 main_v1840 main_v1841 ((fun l r => Host.dotGeneral dot_S2048x2048_S2048x2048_S2048x2048_1_0_0_1_n_n none l r) : (⟨S2048x2048, .f32⟩ : BufTy).Contents (Elt F) → (⟨S2048x2048, .f32⟩ : BufTy).Contents (Elt F) → (⟨S2048x2048, .f32⟩ : BufTy).Contents (Elt F)),
    StableHlo.nullary main_cst_389 (constant S_ .f32 0x00000000#32),
    StableHlo.unary main_cst_389 main_v1842 (broadcastInDim S2048x2048 ![] bcast_S_S2048x2048 : (⟨S_, .f32⟩ : BufTy).Contents (Elt F) → (⟨S2048x2048, .f32⟩ : BufTy).Contents (Elt F)),
    StableHlo.binary main_v1841 main_v1842 main_v1843 (cmpf .ogt : (⟨S2048x2048, .f32⟩ : BufTy).Contents (Elt F) → (⟨S2048x2048, .f32⟩ : BufTy).Contents (Elt F) → (⟨S2048x2048, .i1⟩ : BufTy).Contents (Elt F)),
    StableHlo.unary main_v1843 main_v1844 (uitofp .f32 : (⟨S2048x2048, .i1⟩ : BufTy).Contents (Elt F) → (⟨S2048x2048, .f32⟩ : BufTy).Contents (Elt F)),
    StableHlo.binary main_v1844 main_v1835 main_v1845 (mulf : (⟨S2048x2048, .f32⟩ : BufTy).Contents (Elt F) → (⟨S2048x2048, .f32⟩ : BufTy).Contents (Elt F) → (⟨S2048x2048, .f32⟩ : BufTy).Contents (Elt F)),
    StableHlo.binary main_v1839 main_v1845 main_v1846 (mulf : (⟨S2048x2048, .f32⟩ : BufTy).Contents (Elt F) → (⟨S2048x2048, .f32⟩ : BufTy).Contents (Elt F) → (⟨S2048x2048, .f32⟩ : BufTy).Contents (Elt F)),
    StableHlo.nullary main_cst_390 (constant S_ .f32 0x00000000#32),
    StableHlo.binary main_v1846 main_cst_390 main_v1847 ((fun x v => Host.reduceAdd x v reducesTo_S2048x2048_S2048_d1 h_S_) : (⟨S2048x2048, .f32⟩ : BufTy).Contents (Elt F) → (⟨S_, .f32⟩ : BufTy).Contents (Elt F) → (⟨S2048, .f32⟩ : BufTy).Contents (Elt F)),
    StableHlo.unary main_v1847 main_v1848 (broadcastInDim S2048x1 ![0] bcast_S2048_S2048x1_0 : (⟨S2048, .f32⟩ : BufTy).Contents (Elt F) → (⟨S2048x1, .f32⟩ : BufTy).Contents (Elt F)),
    StableHlo.unary main_v1848 main_v1849 (broadcastInDim S2048x2048 ![0, 1] bcast_S2048x1_S2048x2048_0_1 : (⟨S2048x1, .f32⟩ : BufTy).Contents (Elt F) → (⟨S2048x2048, .f32⟩ : BufTy).Contents (Elt F)),
    StableHlo.binary main_v26 main_v1849 main_v1850 (mulf : (⟨S2048x2048, .f32⟩ : BufTy).Contents (Elt F) → (⟨S2048x2048, .f32⟩ : BufTy).Contents (Elt F) → (⟨S2048x2048, .f32⟩ : BufTy).Contents (Elt F)),
    StableHlo.nullary main_cst_391 (constant S_ .f32 0x00000000#32),
    StableHlo.binary main_v1850 main_cst_391 main_v1851 ((fun x v => Host.reduceAdd x v reducesTo_S2048x2048_S2048_d0 h_S_) : (⟨S2048x2048, .f32⟩ : BufTy).Contents (Elt F) → (⟨S_, .f32⟩ : BufTy).Contents (Elt F) → (⟨S2048, .f32⟩ : BufTy).Contents (Elt F)),
    StableHlo.unary main_v1851 main_v1852 (broadcastInDim S2048x1 ![0] bcast_S2048_S2048x1_0 : (⟨S2048, .f32⟩ : BufTy).Contents (Elt F) → (⟨S2048x1, .f32⟩ : BufTy).Contents (Elt F)),
    StableHlo.binary main_v1761 main_v1816 main_v1853 ((fun l r => Host.dotGeneral dot_S2048x256_S256x8_S2048x8_1_0_0_1_n_n none l r) : (⟨S2048x256, .f32⟩ : BufTy).Contents (Elt F) → (⟨S256x8, .f32⟩ : BufTy).Contents (Elt F) → (⟨S2048x8, .f32⟩ : BufTy).Contents (Elt F)),
    StableHlo.binary main_v1761 main_v1816 main_v1854 ((fun l r => Host.dotGeneral dot_S2048x256_S256x8_S2048x8_1_0_0_1_n_n none l r) : (⟨S2048x256, .f32⟩ : BufTy).Contents (Elt F) → (⟨S256x8, .f32⟩ : BufTy).Contents (Elt F) → (⟨S2048x8, .f32⟩ : BufTy).Contents (Elt F)),
    StableHlo.binary main_v41 main_v1816 main_v1855 ((fun l r => Host.dotGeneral dot_S2048x256_S256x8_S2048x8_1_0_0_1_n_n none l r) : (⟨S2048x256, .f32⟩ : BufTy).Contents (Elt F) → (⟨S256x8, .f32⟩ : BufTy).Contents (Elt F) → (⟨S2048x8, .f32⟩ : BufTy).Contents (Elt F)),
    StableHlo.unary main_v1814 main_v1856 ((extractStridedSlice S8x1 ![0, 0] · slices_S16x1_S8x1_0_0) : (⟨S16x1, .f32⟩ : BufTy).Contents (Elt F) → (⟨S8x1, .f32⟩ : BufTy).Contents (Elt F)),
    StableHlo.binary main_v1854 main_v1856 main_v1857 ((fun l r => Host.dotGeneral dot_S2048x8_S8x1_S2048x1_1_0_0_1_n_n none l r) : (⟨S2048x8, .f32⟩ : BufTy).Contents (Elt F) → (⟨S8x1, .f32⟩ : BufTy).Contents (Elt F) → (⟨S2048x1, .f32⟩ : BufTy).Contents (Elt F)),
    StableHlo.unary main_v1814 main_v1858 ((extractStridedSlice S8x1 ![8, 0] · slices_S16x1_S8x1_8_0) : (⟨S16x1, .f32⟩ : BufTy).Contents (Elt F) → (⟨S8x1, .f32⟩ : BufTy).Contents (Elt F)),
    StableHlo.binary main_v1855 main_v1858 main_v1859 ((fun l r => Host.dotGeneral dot_S2048x8_S8x1_S2048x1_1_0_0_1_n_n none l r) : (⟨S2048x8, .f32⟩ : BufTy).Contents (Elt F) → (⟨S8x1, .f32⟩ : BufTy).Contents (Elt F) → (⟨S2048x1, .f32⟩ : BufTy).Contents (Elt F)),
    StableHlo.unary main_v1859 main_v1860 ((transpose S1x2048 [1, 0] · transposes_S2048x1_S1x2048_1_0) : (⟨S2048x1, .f32⟩ : BufTy).Contents (Elt F) → (⟨S1x2048, .f32⟩ : BufTy).Contents (Elt F)),
    StableHlo.unary main_v1857 main_v1861 (broadcastInDim S2048x2048 ![0, 1] bcast_S2048x1_S2048x2048_0_1 : (⟨S2048x1, .f32⟩ : BufTy).Contents (Elt F) → (⟨S2048x2048, .f32⟩ : BufTy).Contents (Elt F)),
    StableHlo.unary main_v1860 main_v1862 (broadcastInDim S2048x2048 ![0, 1] bcast_S1x2048_S2048x2048_0_1 : (⟨S1x2048, .f32⟩ : BufTy).Contents (Elt F) → (⟨S2048x2048, .f32⟩ : BufTy).Contents (Elt F)),
    StableHlo.binary main_v1861 main_v1862 main_v1863 (addf : (⟨S2048x2048, .f32⟩ : BufTy).Contents (Elt F) → (⟨S2048x2048, .f32⟩ : BufTy).Contents (Elt F) → (⟨S2048x2048, .f32⟩ : BufTy).Contents (Elt F)),
    StableHlo.nullary main_cst_392 (constant S_ .f32 0x3E4CCCCD#32),
    StableHlo.TRef.nullary main_call88.cst (constant S_ .f32 0x00000000#32),
    StableHlo.TRef.unary main_call88.cst main_call88.v0 (broadcastInDim S2048x2048 ![] bcast_S_S2048x2048),
    StableHlo.TRef.binary (StableHlo.TRef.of (T := ⟨S2048x2048, .f32⟩) main_v1863) main_call88.v0 main_call88.v1 (cmpf .oge),
    StableHlo.TRef.unary (StableHlo.TRef.of (T := ⟨S_, .f32⟩) main_cst_392) main_call88.v2 id,
    StableHlo.TRef.unary main_call88.v2 main_call88.v3 (broadcastInDim S2048x2048 ![] bcast_S_S2048x2048),
    StableHlo.TRef.binary main_call88.v3 (StableHlo.TRef.of (T := ⟨S2048x2048, .f32⟩) main_v1863) main_call88.v4 mulf,
    StableHlo.TRef.ternary main_call88.v1 (StableHlo.TRef.of (T := ⟨S2048x2048, .f32⟩) main_v1863) main_call88.v4 main_call88.call0.v0 select,
    StableHlo.nullary main_cst_393 (constant S_ .f32 0x7F800000#32),
    StableHlo.binary main_v1848 main_cst_393 main_v1865 ((fun x v => Host.reduce FloatOps.minimumf x v reducesTo_S2048x1_S_d0_1 h_S_) : (⟨S2048x1, .f32⟩ : BufTy).Contents (Elt F) → (⟨S_, .f32⟩ : BufTy).Contents (Elt F) → (⟨S_, .f32⟩ : BufTy).Contents (Elt F)),
    StableHlo.unary main_v1865 main_v1866 (broadcastInDim S2048x1 ![] bcast_S_S2048x1 : (⟨S_, .f32⟩ : BufTy).Contents (Elt F) → (⟨S2048x1, .f32⟩ : BufTy).Contents (Elt F)),
    StableHlo.binary main_v1848 main_v1866 main_v1867 (subf : (⟨S2048x1, .f32⟩ : BufTy).Contents (Elt F) → (⟨S2048x1, .f32⟩ : BufTy).Contents (Elt F) → (⟨S2048x1, .f32⟩ : BufTy).Contents (Elt F)),
    StableHlo.nullary main_cst_394 (constant S_ .f32 0xFF800000#32),
    StableHlo.binary main_v1848 main_cst_394 main_v1868 ((fun x v => Host.reduce FloatOps.maximumf x v reducesTo_S2048x1_S_d0_1 h_S_) : (⟨S2048x1, .f32⟩ : BufTy).Contents (Elt F) → (⟨S_, .f32⟩ : BufTy).Contents (Elt F) → (⟨S_, .f32⟩ : BufTy).Contents (Elt F)),
    StableHlo.nullary main_cst_395 (constant S_ .f32 0x7F800000#32),
    StableHlo.binary main_v1848 main_cst_395 main_v1869 ((fun x v => Host.reduce FloatOps.minimumf x v reducesTo_S2048x1_S_d0_1 h_S_) : (⟨S2048x1, .f32⟩ : BufTy).Contents (Elt F) → (⟨S_, .f32⟩ : BufTy).Contents (Elt F) → (⟨S_, .f32⟩ : BufTy).Contents (Elt F)),
    StableHlo.binary main_v1868 main_v1869 main_v1870 (subf : (⟨S_, .f32⟩ : BufTy).Contents (Elt F) → (⟨S_, .f32⟩ : BufTy).Contents (Elt F) → (⟨S_, .f32⟩ : BufTy).Contents (Elt F)),
    StableHlo.unary main_v1870 main_v1871 (broadcastInDim S2048x1 ![] bcast_S_S2048x1 : (⟨S_, .f32⟩ : BufTy).Contents (Elt F) → (⟨S2048x1, .f32⟩ : BufTy).Contents (Elt F)),
    StableHlo.binary main_v1867 main_v1871 main_v1872 (Host.divf : (⟨S2048x1, .f32⟩ : BufTy).Contents (Elt F) → (⟨S2048x1, .f32⟩ : BufTy).Contents (Elt F) → (⟨S2048x1, .f32⟩ : BufTy).Contents (Elt F)),
    StableHlo.nullary main_cst_396 (constant S_ .f32 0xFF800000#32),
    StableHlo.binary main_v1864 main_cst_396 main_v1873 ((fun x v => Host.reduce FloatOps.maximumf x v reducesTo_S2048x2048_S_d0_1 h_S_) : (⟨S2048x2048, .f32⟩ : BufTy).Contents (Elt F) → (⟨S_, .f32⟩ : BufTy).Contents (Elt F) → (⟨S_, .f32⟩ : BufTy).Contents (Elt F)),
    StableHlo.unary main_v1873 main_v1874 (broadcastInDim S2048x1 ![] bcast_S_S2048x1 : (⟨S_, .f32⟩ : BufTy).Contents (Elt F) → (⟨S2048x1, .f32⟩ : BufTy).Contents (Elt F)),
    StableHlo.binary main_v1872 main_v1874 main_v1875 (mulf : (⟨S2048x1, .f32⟩ : BufTy).Contents (Elt F) → (⟨S2048x1, .f32⟩ : BufTy).Contents (Elt F) → (⟨S2048x1, .f32⟩ : BufTy).Contents (Elt F)),
    StableHlo.nullary main_cst_397 (constant S_ .f32 0x00000000#32),
    StableHlo.unary main_cst_397 main_v1876 (broadcastInDim S2048x2048 ![] bcast_S_S2048x2048 : (⟨S_, .f32⟩ : BufTy).Contents (Elt F) → (⟨S2048x2048, .f32⟩ : BufTy).Contents (Elt F)),
    StableHlo.binary main_v26 main_v1876 main_v1877 (cmpf .ogt : (⟨S2048x2048, .f32⟩ : BufTy).Contents (Elt F) → (⟨S2048x2048, .f32⟩ : BufTy).Contents (Elt F) → (⟨S2048x2048, .i1⟩ : BufTy).Contents (Elt F)),
    StableHlo.unary main_v1875 main_v1878 (broadcastInDim S2048x2048 ![0, 1] bcast_S2048x1_S2048x2048_0_1 : (⟨S2048x1, .f32⟩ : BufTy).Contents (Elt F) → (⟨S2048x2048, .f32⟩ : BufTy).Contents (Elt F)),
    StableHlo.binary main_v1864 main_v1878 main_v1879 (addf : (⟨S2048x2048, .f32⟩ : BufTy).Contents (Elt F) → (⟨S2048x2048, .f32⟩ : BufTy).Contents (Elt F) → (⟨S2048x2048, .f32⟩ : BufTy).Contents (Elt F)) ]

set_option maxRecDepth 16384 in
set_option maxHeartbeats 4000000 in
/-- The window is that line: the called functions unfold at their calls and sequencing re-associates. -/
theorem main_part37_eq (c : Dev nD) : main_part37 (F := F) c = StableHlo.seq ops_part37 := rfl

set_option maxRecDepth 16384 in
set_option maxHeartbeats 4000000 in
/-- Every operation of the window is good; the result's index is compared by computation. -/
theorem ops_part37_good : (ops_part37 : List (HloOp τ sig (Elt F))).Forall (Good 12) :=
  ⟨binary_good (h := by decide) .., unary_good (h := by decide) .., nullary_good (h := by decide) .., unary_good (h := by decide) ..,
    binary_good (h := by decide) .., nullary_good (h := by decide) .., unary_good (h := by decide) .., binary_good (h := by decide) ..,
    nullary_good (h := by decide) .., unary_good (h := by decide) .., unary_good (h := by decide) .., ternary_good (h := by decide) ..,
    binary_good (h := by decide) .., unary_good (h := by decide) .., binary_good (h := by decide) .., nullary_good (h := by decide) ..,
    unary_good (h := by decide) .., binary_good (h := by decide) .., unary_good (h := by decide) .., binary_good (h := by decide) ..,
    binary_good (h := by decide) .., nullary_good (h := by decide) .., binary_good (h := by decide) .., unary_good (h := by decide) ..,
    unary_good (h := by decide) .., binary_good (h := by decide) .., nullary_good (h := by decide) .., binary_good (h := by decide) ..,
    unary_good (h := by decide) .., binary_good (h := by decide) .., binary_good (h := by decide) .., binary_good (h := by decide) ..,
    unary_good (h := by decide) .., binary_good (h := by decide) .., unary_good (h := by decide) .., binary_good (h := by decide) ..,
    unary_good (h := by decide) .., unary_good (h := by decide) .., unary_good (h := by decide) .., binary_good (h := by decide) ..,
    nullary_good (h := by decide) .., nullary_good (h := by decide) .., unary_good (h := by decide) .., binary_good (h := by decide) ..,
    unary_good (h := by decide) .., unary_good (h := by decide) .., binary_good (h := by decide) .., ternary_good (h := by decide) ..,
    nullary_good (h := by decide) .., binary_good (h := by decide) .., unary_good (h := by decide) .., binary_good (h := by decide) ..,
    nullary_good (h := by decide) .., binary_good (h := by decide) .., nullary_good (h := by decide) .., binary_good (h := by decide) ..,
    binary_good (h := by decide) .., unary_good (h := by decide) .., binary_good (h := by decide) .., nullary_good (h := by decide) ..,
    binary_good (h := by decide) .., unary_good (h := by decide) .., binary_good (h := by decide) .., nullary_good (h := by decide) ..,
    unary_good (h := by decide) .., binary_good (h := by decide) .., unary_good (h := by decide) .., binary_good (h := by decide) ..⟩

end Cert.ReferenceIdeal.Hand

end
-- ==== Proof.Ref.W38.lean ====
import proofs.«146970_j35948876268088_1_alg».proof.ReferenceIdeal.P07
import proofs.«146970_j35948876268088_1_alg».proof.Proof.Ref.Keep

noncomputable section

namespace Cert.ReferenceIdeal.Hand

open Cert.ReferenceIdeal Idealize.ShloMosaic Idealize.ShloMosaic.TcCoe Idealize.SL.Sem Idealize.ShloMosaic.StableHlo

variable {F : FTy → Type} [FloatOps F]

variable [Facts]
open Facts₀ Facts

set_option maxHeartbeats 4000000 in
/-- The operations of window 38, in order; a called function's operations stand in its call's place. -/
abbrev ops_part38 : List (HloOp τ sig (Elt F)) :=
  [ StableHlo.nullary main_cst_398 (constant S_ .f32 0xD368D4A5#32),
    StableHlo.TRef.unary (StableHlo.TRef.of (T := ⟨S_, .f32⟩) main_cst_398) main_call89.v0 id,
    StableHlo.TRef.unary main_call89.v0 main_call89.v1 (broadcastInDim S2048x2048 ![] bcast_S_S2048x2048),
    StableHlo.TRef.ternary (StableHlo.TRef.of (T := ⟨S2048x2048, .i1⟩) main_v1877) (StableHlo.TRef.of (T := ⟨S2048x2048, .f32⟩) main_v1879) main_call89.v1 main_call89.v2 select,
    StableHlo.nullary main_cst_399 (constant S_ .f32 0xFF800000#32),
    StableHlo.binary main_v1880 main_cst_399 main_v1881 ((fun x v => Host.reduce FloatOps.maximumf x v reducesTo_S2048x2048_S2048_d1 h_S_) : (⟨S2048x2048, .f32⟩ : BufTy).Contents (Elt F) → (⟨S_, .f32⟩ : BufTy).Contents (Elt F) → (⟨S2048, .f32⟩ : BufTy).Contents (Elt F)),
    StableHlo.nullary main_cst_400 (constant S_ .f32 0xFF800000#32),
    StableHlo.unary main_cst_400 main_v1882 (broadcastInDim S2048 ![] bcast_S_S2048 : (⟨S_, .f32⟩ : BufTy).Contents (Elt F) → (⟨S2048, .f32⟩ : BufTy).Contents (Elt F)),
    StableHlo.binary main_v1882 main_v1881 main_v1883 (maximumf : (⟨S2048, .f32⟩ : BufTy).Contents (Elt F) → (⟨S2048, .f32⟩ : BufTy).Contents (Elt F) → (⟨S2048, .f32⟩ : BufTy).Contents (Elt F)),
    StableHlo.unary main_v1883 main_v1884 (broadcastInDim S2048x1 ![0] bcast_S2048_S2048x1_0 : (⟨S2048, .f32⟩ : BufTy).Contents (Elt F) → (⟨S2048x1, .f32⟩ : BufTy).Contents (Elt F)),
    StableHlo.unary main_v1884 main_v1885 (broadcastInDim S2048x2048 ![0, 1] bcast_S2048x1_S2048x2048_0_1 : (⟨S2048x1, .f32⟩ : BufTy).Contents (Elt F) → (⟨S2048x2048, .f32⟩ : BufTy).Contents (Elt F)),
    StableHlo.binary main_v1880 main_v1885 main_v1886 (subf : (⟨S2048x2048, .f32⟩ : BufTy).Contents (Elt F) → (⟨S2048x2048, .f32⟩ : BufTy).Contents (Elt F) → (⟨S2048x2048, .f32⟩ : BufTy).Contents (Elt F)),
    StableHlo.unary main_v1886 main_v1887 (Host.exp : (⟨S2048x2048, .f32⟩ : BufTy).Contents (Elt F) → (⟨S2048x2048, .f32⟩ : BufTy).Contents (Elt F)),
    StableHlo.nullary main_cst_401 (constant S_ .f32 0x00000000#32),
    StableHlo.binary main_v1887 main_cst_401 main_v1888 ((fun x v => Host.reduceAdd x v reducesTo_S2048x2048_S2048_d1 h_S_) : (⟨S2048x2048, .f32⟩ : BufTy).Contents (Elt F) → (⟨S_, .f32⟩ : BufTy).Contents (Elt F) → (⟨S2048, .f32⟩ : BufTy).Contents (Elt F)),
    StableHlo.unary main_v1888 main_v1889 (broadcastInDim S2048x1 ![0] bcast_S2048_S2048x1_0 : (⟨S2048, .f32⟩ : BufTy).Contents (Elt F) → (⟨S2048x1, .f32⟩ : BufTy).Contents (Elt F)),
    StableHlo.unary main_v1889 main_v1890 (broadcastInDim S2048x2048 ![0, 1] bcast_S2048x1_S2048x2048_0_1 : (⟨S2048x1, .f32⟩ : BufTy).Contents (Elt F) → (⟨S2048x2048, .f32⟩ : BufTy).Contents (Elt F)),
    StableHlo.binary main_v1887 main_v1890 main_v1891 (Host.divf : (⟨S2048x2048, .f32⟩ : BufTy).Contents (Elt F) → (⟨S2048x2048, .f32⟩ : BufTy).Contents (Elt F) → (⟨S2048x2048, .f32⟩ : BufTy).Contents (Elt F)),
    StableHlo.unary main_v1891 main_v1892 ((transpose S2048x2048 [1, 0] · transposes_S2048x2048_S2048x2048_1_0) : (⟨S2048x2048, .f32⟩ : BufTy).Contents (Elt F) → (⟨S2048x2048, .f32⟩ : BufTy).Contents (Elt F)),
    StableHlo.binary main_v1892 main_v1853 main_v1893 ((fun l r => Host.dotGeneral dot_S2048x2048_S2048x8_S2048x8_1_0_0_1_n_n none l r) : (⟨S2048x2048, .f32⟩ : BufTy).Contents (Elt F) → (⟨S2048x8, .f32⟩ : BufTy).Contents (Elt F) → (⟨S2048x8, .f32⟩ : BufTy).Contents (Elt F)),
    StableHlo.TRef.nullary main_call90.cst (constant S_ .f32 0x00000000#32),
    StableHlo.TRef.unary main_call90.cst main_call90.v0 (broadcastInDim S2048x8 ![] bcast_S_S2048x8),
    StableHlo.TRef.binary (StableHlo.TRef.of (T := ⟨S2048x8, .f32⟩) main_v1893) main_call90.v0 main_call90.v1 (cmpf .ogt),
    StableHlo.TRef.nullary main_call90.cst_0 (constant S_ .f32 0x00000000#32),
    StableHlo.TRef.unary main_call90.cst_0 main_call90.v2 (broadcastInDim S2048x8 ![] bcast_S_S2048x8),
    StableHlo.TRef.binary (StableHlo.TRef.of (T := ⟨S2048x8, .f32⟩) main_v1893) main_call90.v2 main_call90.v3 (cmpf .ogt),
    StableHlo.TRef.nullary main_call90.cst_1 (constant S_ .f32 0x00000000#32),
    StableHlo.TRef.unary main_call90.cst_1 main_call90.call0.v0 id,
    StableHlo.TRef.unary main_call90.call0.v0 main_call90.call0.v1 (broadcastInDim S2048x8 ![] bcast_S_S2048x8),
    StableHlo.TRef.ternary main_call90.v3 main_call90.call0.v1 (StableHlo.TRef.of (T := ⟨S2048x8, .f32⟩) main_v1893) main_call90.call0.v2 select,
    StableHlo.TRef.unary main_call90.call0.v2 main_call90.v5 Host.expm1,
    StableHlo.TRef.nullary main_call90.cst_2 (constant S_ .f32 0x3F800000#32),
    StableHlo.TRef.unary main_call90.cst_2 main_call90.v6 (broadcastInDim S2048x8 ![] bcast_S_S2048x8),
    StableHlo.TRef.binary main_call90.v6 main_call90.v5 main_call90.v7 mulf,
    StableHlo.TRef.ternary main_call90.v1 (StableHlo.TRef.of (T := ⟨S2048x8, .f32⟩) main_v1893) main_call90.v7 main_call90.call1.v0 select,
    StableHlo.unary main_v26 main_v1895 ((transpose S2048x2048 [1, 0] · transposes_S2048x2048_S2048x2048_1_0) : (⟨S2048x2048, .f32⟩ : BufTy).Contents (Elt F) → (⟨S2048x2048, .f32⟩ : BufTy).Contents (Elt F)),
    StableHlo.binary main_v41 main_v1816 main_v1896 ((fun l r => Host.dotGeneral dot_S2048x256_S256x8_S2048x8_1_0_0_1_n_n none l r) : (⟨S2048x256, .f32⟩ : BufTy).Contents (Elt F) → (⟨S256x8, .f32⟩ : BufTy).Contents (Elt F) → (⟨S2048x8, .f32⟩ : BufTy).Contents (Elt F)),
    StableHlo.binary main_v1761 main_v1816 main_v1897 ((fun l r => Host.dotGeneral dot_S2048x256_S256x8_S2048x8_1_0_0_1_n_n none l r) : (⟨S2048x256, .f32⟩ : BufTy).Contents (Elt F) → (⟨S256x8, .f32⟩ : BufTy).Contents (Elt F) → (⟨S2048x8, .f32⟩ : BufTy).Contents (Elt F)),
    StableHlo.unary main_v1815 main_v1898 ((extractStridedSlice S8x1 ![0, 0] · slices_S16x1_S8x1_0_0) : (⟨S16x1, .f32⟩ : BufTy).Contents (Elt F) → (⟨S8x1, .f32⟩ : BufTy).Contents (Elt F)),
    StableHlo.binary main_v1896 main_v1898 main_v1899 ((fun l r => Host.dotGeneral dot_S2048x8_S8x1_S2048x1_1_0_0_1_n_n none l r) : (⟨S2048x8, .f32⟩ : BufTy).Contents (Elt F) → (⟨S8x1, .f32⟩ : BufTy).Contents (Elt F) → (⟨S2048x1, .f32⟩ : BufTy).Contents (Elt F)),
    StableHlo.unary main_v1815 main_v1900 ((extractStridedSlice S8x1 ![8, 0] · slices_S16x1_S8x1_8_0) : (⟨S16x1, .f32⟩ : BufTy).Contents (Elt F) → (⟨S8x1, .f32⟩ : BufTy).Contents (Elt F)),
    StableHlo.binary main_v1897 main_v1900 main_v1901 ((fun l r => Host.dotGeneral dot_S2048x8_S8x1_S2048x1_1_0_0_1_n_n none l r) : (⟨S2048x8, .f32⟩ : BufTy).Contents (Elt F) → (⟨S8x1, .f32⟩ : BufTy).Contents (Elt F) → (⟨S2048x1, .f32⟩ : BufTy).Contents (Elt F)),
    StableHlo.unary main_v1901 main_v1902 ((transpose S1x2048 [1, 0] · transposes_S2048x1_S1x2048_1_0) : (⟨S2048x1, .f32⟩ : BufTy).Contents (Elt F) → (⟨S1x2048, .f32⟩ : BufTy).Contents (Elt F)),
    StableHlo.unary main_v1899 main_v1903 (broadcastInDim S2048x2048 ![0, 1] bcast_S2048x1_S2048x2048_0_1 : (⟨S2048x1, .f32⟩ : BufTy).Contents (Elt F) → (⟨S2048x2048, .f32⟩ : BufTy).Contents (Elt F)),
    StableHlo.unary main_v1902 main_v1904 (broadcastInDim S2048x2048 ![0, 1] bcast_S1x2048_S2048x2048_0_1 : (⟨S1x2048, .f32⟩ : BufTy).Contents (Elt F) → (⟨S2048x2048, .f32⟩ : BufTy).Contents (Elt F)),
    StableHlo.binary main_v1903 main_v1904 main_v1905 (addf : (⟨S2048x2048, .f32⟩ : BufTy).Contents (Elt F) → (⟨S2048x2048, .f32⟩ : BufTy).Contents (Elt F) → (⟨S2048x2048, .f32⟩ : BufTy).Contents (Elt F)),
    StableHlo.nullary main_cst_402 (constant S_ .f32 0x3E4CCCCD#32),
    StableHlo.TRef.nullary main_call91.cst (constant S_ .f32 0x00000000#32),
    StableHlo.TRef.unary main_call91.cst main_call91.v0 (broadcastInDim S2048x2048 ![] bcast_S_S2048x2048),
    StableHlo.TRef.binary (StableHlo.TRef.of (T := ⟨S2048x2048, .f32⟩) main_v1905) main_call91.v0 main_call91.v1 (cmpf .oge),
    StableHlo.TRef.unary (StableHlo.TRef.of (T := ⟨S_, .f32⟩) main_cst_402) main_call91.v2 id,
    StableHlo.TRef.unary main_call91.v2 main_call91.v3 (broadcastInDim S2048x2048 ![] bcast_S_S2048x2048),
    StableHlo.TRef.binary main_call91.v3 (StableHlo.TRef.of (T := ⟨S2048x2048, .f32⟩) main_v1905) main_call91.v4 mulf,
    StableHlo.TRef.ternary main_call91.v1 (StableHlo.TRef.of (T := ⟨S2048x2048, .f32⟩) main_v1905) main_call91.v4 main_call91.call0.v0 select,
    StableHlo.nullary main_cst_403 (constant S_ .f32 0x7F800000#32),
    StableHlo.binary main_v1852 main_cst_403 main_v1907 ((fun x v => Host.reduce FloatOps.minimumf x v reducesTo_S2048x1_S_d0_1 h_S_) : (⟨S2048x1, .f32⟩ : BufTy).Contents (Elt F) → (⟨S_, .f32⟩ : BufTy).Contents (Elt F) → (⟨S_, .f32⟩ : BufTy).Contents (Elt F)),
    StableHlo.unary main_v1907 main_v1908 (broadcastInDim S2048x1 ![] bcast_S_S2048x1 : (⟨S_, .f32⟩ : BufTy).Contents (Elt F) → (⟨S2048x1, .f32⟩ : BufTy).Contents (Elt F)),
    StableHlo.binary main_v1852 main_v1908 main_v1909 (subf : (⟨S2048x1, .f32⟩ : BufTy).Contents (Elt F) → (⟨S2048x1, .f32⟩ : BufTy).Contents (Elt F) → (⟨S2048x1, .f32⟩ : BufTy).Contents (Elt F)),
    StableHlo.nullary main_cst_404 (constant S_ .f32 0xFF800000#32),
    StableHlo.binary main_v1852 main_cst_404 main_v1910 ((fun x v => Host.reduce FloatOps.maximumf x v reducesTo_S2048x1_S_d0_1 h_S_) : (⟨S2048x1, .f32⟩ : BufTy).Contents (Elt F) → (⟨S_, .f32⟩ : BufTy).Contents (Elt F) → (⟨S_, .f32⟩ : BufTy).Contents (Elt F)),
    StableHlo.nullary main_cst_405 (constant S_ .f32 0x7F800000#32),
    StableHlo.binary main_v1852 main_cst_405 main_v1911 ((fun x v => Host.reduce FloatOps.minimumf x v reducesTo_S2048x1_S_d0_1 h_S_) : (⟨S2048x1, .f32⟩ : BufTy).Contents (Elt F) → (⟨S_, .f32⟩ : BufTy).Contents (Elt F) → (⟨S_, .f32⟩ : BufTy).Contents (Elt F)),
    StableHlo.binary main_v1910 main_v1911 main_v1912 (subf : (⟨S_, .f32⟩ : BufTy).Contents (Elt F) → (⟨S_, .f32⟩ : BufTy).Contents (Elt F) → (⟨S_, .f32⟩ : BufTy).Contents (Elt F)),
    StableHlo.unary main_v1912 main_v1913 (broadcastInDim S2048x1 ![] bcast_S_S2048x1 : (⟨S_, .f32⟩ : BufTy).Contents (Elt F) → (⟨S2048x1, .f32⟩ : BufTy).Contents (Elt F)),
    StableHlo.binary main_v1909 main_v1913 main_v1914 (Host.divf : (⟨S2048x1, .f32⟩ : BufTy).Contents (Elt F) → (⟨S2048x1, .f32⟩ : BufTy).Contents (Elt F) → (⟨S2048x1, .f32⟩ : BufTy).Contents (Elt F)),
    StableHlo.nullary main_cst_406 (constant S_ .f32 0xFF800000#32),
    StableHlo.binary main_v1906 main_cst_406 main_v1915 ((fun x v => Host.reduce FloatOps.maximumf x v reducesTo_S2048x2048_S_d0_1 h_S_) : (⟨S2048x2048, .f32⟩ : BufTy).Contents (Elt F) → (⟨S_, .f32⟩ : BufTy).Contents (Elt F) → (⟨S_, .f32⟩ : BufTy).Contents (Elt F)),
    StableHlo.unary main_v1915 main_v1916 (broadcastInDim S2048x1 ![] bcast_S_S2048x1 : (⟨S_, .f32⟩ : BufTy).Contents (Elt F) → (⟨S2048x1, .f32⟩ : BufTy).Contents (Elt F)),
    StableHlo.binary main_v1914 main_v1916 main_v1917 (mulf : (⟨S2048x1, .f32⟩ : BufTy).Contents (Elt F) → (⟨S2048x1, .f32⟩ : BufTy).Contents (Elt F) → (⟨S2048x1, .f32⟩ : BufTy).Contents (Elt F)),
    StableHlo.nullary main_cst_407 (constant S_ .f32 0x00000000#32),
    StableHlo.unary main_cst_407 main_v1918 (broadcastInDim S2048x2048 ![] bcast_S_S2048x2048 : (⟨S_, .f32⟩ : BufTy).Contents (Elt F) → (⟨S2048x2048, .f32⟩ : BufTy).Contents (Elt F)),
    StableHlo.binary main_v1895 main_v1918 main_v1919 (cmpf .ogt : (⟨S2048x2048, .f32⟩ : BufTy).Contents (Elt F) → (⟨S2048x2048, .f32⟩ : BufTy).Contents (Elt F) → (⟨S2048x2048, .i1⟩ : BufTy).Contents (Elt F)),
    StableHlo.unary main_v1917 main_v1920 (broadcastInDim S2048x2048 ![0, 1] bcast_S2048x1_S2048x2048_0_1 : (⟨S2048x1, .f32⟩ : BufTy).Contents (Elt F) → (⟨S2048x2048, .f32⟩ : BufTy).Contents (Elt F)),
    StableHlo.binary main_v1906 main_v1920 main_v1921 (addf : (⟨S2048x2048, .f32⟩ : BufTy).Contents (Elt F) → (⟨S2048x2048, .f32⟩ : BufTy).Contents (Elt F) → (⟨S2048x2048, .f32⟩ : BufTy).Contents (Elt F)),
    StableHlo.nullary main_cst_408 (constant S_ .f32 0xD368D4A5#32),
    StableHlo.TRef.unary (StableHlo.TRef.of (T := ⟨S_, .f32⟩) main_cst_408) main_call92.v0 id,
    StableHlo.TRef.unary main_call92.v0 main_call92.v1 (broadcastInDim S2048x2048 ![] bcast_S_S2048x2048),
    StableHlo.TRef.ternary (StableHlo.TRef.of (T := ⟨S2048x2048, .i1⟩) main_v1919) (StableHlo.TRef.of (T := ⟨S2048x2048, .f32⟩) main_v1921) main_call92.v1 main_call92.v2 select,
    StableHlo.nullary main_cst_409 (constant S_ .f32 0xFF800000#32),
    StableHlo.binary main_v1922 main_cst_409 main_v1923 ((fun x v => Host.reduce FloatOps.maximumf x v reducesTo_S2048x2048_S2048_d1 h_S_) : (⟨S2048x2048, .f32⟩ : BufTy).Contents (Elt F) → (⟨S_, .f32⟩ : BufTy).Contents (Elt F) → (⟨S2048, .f32⟩ : BufTy).Contents (Elt F)),
    StableHlo.nullary main_cst_410 (constant S_ .f32 0xFF800000#32),
    StableHlo.unary main_cst_410 main_v1924 (broadcastInDim S2048 ![] bcast_S_S2048 : (⟨S_, .f32⟩ : BufTy).Contents (Elt F) → (⟨S2048, .f32⟩ : BufTy).Contents (Elt F)),
    StableHlo.binary main_v1924 main_v1923 main_v1925 (maximumf : (⟨S2048, .f32⟩ : BufTy).Contents (Elt F) → (⟨S2048, .f32⟩ : BufTy).Contents (Elt F) → (⟨S2048, .f32⟩ : BufTy).Contents (Elt F)),
    StableHlo.unary main_v1925 main_v1926 (broadcastInDim S2048x1 ![0] bcast_S2048_S2048x1_0 : (⟨S2048, .f32⟩ : BufTy).Contents (Elt F) → (⟨S2048x1, .f32⟩ : BufTy).Contents (Elt F)) ]

set_option maxRecDepth 16384 in
set_option maxHeartbeats 4000000 in
/-- The window is that line: the called functions unfold at their calls and sequencing re-associates. -/
theorem main_part38_eq (c : Dev nD) : main_part38 (F := F) c = StableHlo.seq ops_part38 := rfl

set_option maxRecDepth 16384 in
set_option maxHeartbeats 4000000 in
/-- Every operation of the window is good; the result's index is compared by computation. -/
theorem ops_part38_good : (ops_part38 : List (HloOp τ sig (Elt F))).Forall (Good 12) :=
  ⟨nullary_good (h := by decide) .., unary_good (h := by decide) .., unary_good (h := by decide) .., ternary_good (h := by decide) ..,
    nullary_good (h := by decide) .., binary_good (h := by decide) .., nullary_good (h := by decide) .., unary_good (h := by decide) ..,
    binary_good (h := by decide) .., unary_good (h := by decide) .., unary_good (h := by decide) .., binary_good (h := by decide) ..,
    unary_good (h := by decide) .., nullary_good (h := by decide) .., binary_good (h := by decide) .., unary_good (h := by decide) ..,
    unary_good (h := by decide) .., binary_good (h := by decide) .., unary_good (h := by decide) .., binary_good (h := by decide) ..,
    nullary_good (h := by decide) .., unary_good (h := by decide) .., binary_good (h := by decide) .., nullary_good (h := by decide) ..,
    unary_good (h := by decide) .., binary_good (h := by decide) .., nullary_good (h := by decide) .., unary_good (h := by decide) ..,
    unary_good (h := by decide) .., ternary_good (h := by decide) .., unary_good (h := by decide) .., nullary_good (h := by decide) ..,
    unary_good (h := by decide) .., binary_good (h := by decide) .., ternary_good (h := by decide) .., unary_good (h := by decide) ..,
    binary_good (h := by decide) .., binary_good (h := by decide) .., unary_good (h := by decide) .., binary_good (h := by decide) ..,
    unary_good (h := by decide) .., binary_good (h := by decide) .., unary_good (h := by decide) .., unary_good (h := by decide) ..,
    unary_good (h := by decide) .., binary_good (h := by decide) .., nullary_good (h := by decide) .., nullary_good (h := by decide) ..,
    unary_good (h := by decide) .., binary_good (h := by decide) .., unary_good (h := by decide) .., unary_good (h := by decide) ..,
    binary_good (h := by decide) .., ternary_good (h := by decide) .., nullary_good (h := by decide) .., binary_good (h := by decide) ..,
    unary_good (h := by decide) .., binary_good (h := by decide) .., nullary_good (h := by decide) .., binary_good (h := by decide) ..,
    nullary_good (h := by decide) .., binary_good (h := by decide) .., binary_good (h := by decide) .., unary_good (h := by decide) ..,
    binary_good (h := by decide) .., nullary_good (h := by decide) .., binary_good (h := by decide) .., unary_good (h := by decide) ..,
    binary_good (h := by decide) .., nullary_good (h := by decide) .., unary_good (h := by decide) .., binary_good (h := by decide) ..,
    unary_good (h := by decide) .., binary_good (h := by decide) .., nullary_good (h := by decide) .., unary_good (h := by decide) ..,
    unary_good (h := by decide) .., ternary_good (h := by decide) .., nullary_good (h := by decide) .., binary_good (h := by decide) ..,
    nullary_good (h := by decide) .., unary_good (h := by decide) .., binary_good (h := by decide) .., unary_good (h := by decide) ..⟩

end Cert.ReferenceIdeal.Hand

end
-- ==== Proof.Ref.W39.lean ====
import proofs.«146970_j35948876268088_1_alg».proof.ReferenceIdeal.P07
import proofs.«146970_j35948876268088_1_alg».proof.Proof.Ref.Keep

noncomputable section

namespace Cert.ReferenceIdeal.Hand

open Cert.ReferenceIdeal Idealize.ShloMosaic Idealize.ShloMosaic.TcCoe Idealize.SL.Sem Idealize.ShloMosaic.StableHlo

variable {F : FTy → Type} [FloatOps F]

variable [Facts]
open Facts₀ Facts

set_option maxHeartbeats 4000000 in
/-- The operations of window 39, in order; a called function's operations stand in its call's place. -/
abbrev ops_part39 : List (HloOp τ sig (Elt F)) :=
  [ StableHlo.unary main_v1926 main_v1927 (broadcastInDim S2048x2048 ![0, 1] bcast_S2048x1_S2048x2048_0_1 : (⟨S2048x1, .f32⟩ : BufTy).Contents (Elt F) → (⟨S2048x2048, .f32⟩ : BufTy).Contents (Elt F)),
    StableHlo.binary main_v1922 main_v1927 main_v1928 (subf : (⟨S2048x2048, .f32⟩ : BufTy).Contents (Elt F) → (⟨S2048x2048, .f32⟩ : BufTy).Contents (Elt F) → (⟨S2048x2048, .f32⟩ : BufTy).Contents (Elt F)),
    StableHlo.unary main_v1928 main_v1929 (Host.exp : (⟨S2048x2048, .f32⟩ : BufTy).Contents (Elt F) → (⟨S2048x2048, .f32⟩ : BufTy).Contents (Elt F)),
    StableHlo.nullary main_cst_411 (constant S_ .f32 0x00000000#32),
    StableHlo.binary main_v1929 main_cst_411 main_v1930 ((fun x v => Host.reduceAdd x v reducesTo_S2048x2048_S2048_d1 h_S_) : (⟨S2048x2048, .f32⟩ : BufTy).Contents (Elt F) → (⟨S_, .f32⟩ : BufTy).Contents (Elt F) → (⟨S2048, .f32⟩ : BufTy).Contents (Elt F)),
    StableHlo.unary main_v1930 main_v1931 (broadcastInDim S2048x1 ![0] bcast_S2048_S2048x1_0 : (⟨S2048, .f32⟩ : BufTy).Contents (Elt F) → (⟨S2048x1, .f32⟩ : BufTy).Contents (Elt F)),
    StableHlo.unary main_v1931 main_v1932 (broadcastInDim S2048x2048 ![0, 1] bcast_S2048x1_S2048x2048_0_1 : (⟨S2048x1, .f32⟩ : BufTy).Contents (Elt F) → (⟨S2048x2048, .f32⟩ : BufTy).Contents (Elt F)),
    StableHlo.binary main_v1929 main_v1932 main_v1933 (Host.divf : (⟨S2048x2048, .f32⟩ : BufTy).Contents (Elt F) → (⟨S2048x2048, .f32⟩ : BufTy).Contents (Elt F) → (⟨S2048x2048, .f32⟩ : BufTy).Contents (Elt F)),
    StableHlo.unary main_v1933 main_v1934 ((transpose S2048x2048 [1, 0] · transposes_S2048x2048_S2048x2048_1_0) : (⟨S2048x2048, .f32⟩ : BufTy).Contents (Elt F) → (⟨S2048x2048, .f32⟩ : BufTy).Contents (Elt F)),
    StableHlo.binary main_v1934 main_v1894 main_v1935 ((fun l r => Host.dotGeneral dot_S2048x2048_S2048x8_S2048x8_1_0_0_1_n_n none l r) : (⟨S2048x2048, .f32⟩ : BufTy).Contents (Elt F) → (⟨S2048x8, .f32⟩ : BufTy).Contents (Elt F) → (⟨S2048x8, .f32⟩ : BufTy).Contents (Elt F)),
    StableHlo.TRef.nullary main_call93.cst (constant S_ .f32 0x00000000#32),
    StableHlo.TRef.unary main_call93.cst main_call93.v0 (broadcastInDim S2048x8 ![] bcast_S_S2048x8),
    StableHlo.TRef.binary (StableHlo.TRef.of (T := ⟨S2048x8, .f32⟩) main_v1935) main_call93.v0 main_call93.v1 (cmpf .ogt),
    StableHlo.TRef.nullary main_call93.cst_0 (constant S_ .f32 0x00000000#32),
    StableHlo.TRef.unary main_call93.cst_0 main_call93.v2 (broadcastInDim S2048x8 ![] bcast_S_S2048x8),
    StableHlo.TRef.binary (StableHlo.TRef.of (T := ⟨S2048x8, .f32⟩) main_v1935) main_call93.v2 main_call93.v3 (cmpf .ogt),
    StableHlo.TRef.nullary main_call93.cst_1 (constant S_ .f32 0x00000000#32),
    StableHlo.TRef.unary main_call93.cst_1 main_call93.call0.v0 id,
    StableHlo.TRef.unary main_call93.call0.v0 main_call93.call0.v1 (broadcastInDim S2048x8 ![] bcast_S_S2048x8),
    StableHlo.TRef.ternary main_call93.v3 main_call93.call0.v1 (StableHlo.TRef.of (T := ⟨S2048x8, .f32⟩) main_v1935) main_call93.call0.v2 select,
    StableHlo.TRef.unary main_call93.call0.v2 main_call93.v5 Host.expm1,
    StableHlo.TRef.nullary main_call93.cst_2 (constant S_ .f32 0x3F800000#32),
    StableHlo.TRef.unary main_call93.cst_2 main_call93.v6 (broadcastInDim S2048x8 ![] bcast_S_S2048x8),
    StableHlo.TRef.binary main_call93.v6 main_call93.v5 main_call93.v7 mulf,
    StableHlo.TRef.ternary main_call93.v1 (StableHlo.TRef.of (T := ⟨S2048x8, .f32⟩) main_v1935) main_call93.v7 main_call93.call1.v0 select,
    StableHlo.unary main_arg10 main_v1937 ((extractStridedSlice S1x16x16 ![0, 0, 0] · slices_S3x16x16_S1x16x16_0_0_0) : (⟨S3x16x16, .f32⟩ : BufTy).Contents (Elt F) → (⟨S1x16x16, .f32⟩ : BufTy).Contents (Elt F)),
    StableHlo.reshape main_v1937 main_v1938 rfl shapeCasts_S1x16x16_S16x16,
    StableHlo.binary main_v1938 main_v1813 main_v1939 ((fun l r => Host.dotGeneral dot_S16x16_S16x2_S16x2_1_0_0_1_n_n none l r) : (⟨S16x16, .f32⟩ : BufTy).Contents (Elt F) → (⟨S16x2, .f32⟩ : BufTy).Contents (Elt F) → (⟨S16x2, .f32⟩ : BufTy).Contents (Elt F)),
    StableHlo.unary main_arg11 main_v1940 ((extractStridedSlice S1x16x16 ![0, 0, 0] · slices_S3x16x16_S1x16x16_0_0_0) : (⟨S3x16x16, .f32⟩ : BufTy).Contents (Elt F) → (⟨S1x16x16, .f32⟩ : BufTy).Contents (Elt F)),
    StableHlo.reshape main_v1940 main_v1941 rfl shapeCasts_S1x16x16_S16x16,
    StableHlo.binary main_v1941 main_v1813 main_v1942 ((fun l r => Host.dotGeneral dot_S16x16_S16x2_S16x2_1_0_0_1_n_n none l r) : (⟨S16x16, .f32⟩ : BufTy).Contents (Elt F) → (⟨S16x2, .f32⟩ : BufTy).Contents (Elt F) → (⟨S16x2, .f32⟩ : BufTy).Contents (Elt F)),
    StableHlo.binary main_v1939 main_v1942 main_v1943 (addf : (⟨S16x2, .f32⟩ : BufTy).Contents (Elt F) → (⟨S16x2, .f32⟩ : BufTy).Contents (Elt F) → (⟨S16x2, .f32⟩ : BufTy).Contents (Elt F)),
    StableHlo.unary main_v1943 main_v1944 (Host.negf : (⟨S16x2, .f32⟩ : BufTy).Contents (Elt F) → (⟨S16x2, .f32⟩ : BufTy).Contents (Elt F)),
    StableHlo.unary main_v1944 main_v1945 (Host.exp : (⟨S16x2, .f32⟩ : BufTy).Contents (Elt F) → (⟨S16x2, .f32⟩ : BufTy).Contents (Elt F)),
    StableHlo.nullary main_cst_412 (constant S_ .f32 0x3F800000#32),
    StableHlo.unary main_cst_412 main_v1946 (broadcastInDim S16x2 ![] bcast_S_S16x2 : (⟨S_, .f32⟩ : BufTy).Contents (Elt F) → (⟨S16x2, .f32⟩ : BufTy).Contents (Elt F)),
    StableHlo.binary main_v1946 main_v1945 main_v1947 (addf : (⟨S16x2, .f32⟩ : BufTy).Contents (Elt F) → (⟨S16x2, .f32⟩ : BufTy).Contents (Elt F) → (⟨S16x2, .f32⟩ : BufTy).Contents (Elt F)),
    StableHlo.nullary main_cst_413 (constant S_ .f32 0x3F800000#32),
    StableHlo.unary main_cst_413 main_v1948 (broadcastInDim S16x2 ![] bcast_S_S16x2 : (⟨S_, .f32⟩ : BufTy).Contents (Elt F) → (⟨S16x2, .f32⟩ : BufTy).Contents (Elt F)),
    StableHlo.binary main_v1948 main_v1947 main_v1949 (Host.divf : (⟨S16x2, .f32⟩ : BufTy).Contents (Elt F) → (⟨S16x2, .f32⟩ : BufTy).Contents (Elt F) → (⟨S16x2, .f32⟩ : BufTy).Contents (Elt F)),
    StableHlo.unary main_arg10 main_v1950 ((extractStridedSlice S1x16x16 ![1, 0, 0] · slices_S3x16x16_S1x16x16_1_0_0) : (⟨S3x16x16, .f32⟩ : BufTy).Contents (Elt F) → (⟨S1x16x16, .f32⟩ : BufTy).Contents (Elt F)),
    StableHlo.reshape main_v1950 main_v1951 rfl shapeCasts_S1x16x16_S16x16,
    StableHlo.binary main_v1951 main_v1813 main_v1952 ((fun l r => Host.dotGeneral dot_S16x16_S16x2_S16x2_1_0_0_1_n_n none l r) : (⟨S16x16, .f32⟩ : BufTy).Contents (Elt F) → (⟨S16x2, .f32⟩ : BufTy).Contents (Elt F) → (⟨S16x2, .f32⟩ : BufTy).Contents (Elt F)),
    StableHlo.unary main_arg11 main_v1953 ((extractStridedSlice S1x16x16 ![1, 0, 0] · slices_S3x16x16_S1x16x16_1_0_0) : (⟨S3x16x16, .f32⟩ : BufTy).Contents (Elt F) → (⟨S1x16x16, .f32⟩ : BufTy).Contents (Elt F)),
    StableHlo.reshape main_v1953 main_v1954 rfl shapeCasts_S1x16x16_S16x16,
    StableHlo.binary main_v1954 main_v1813 main_v1955 ((fun l r => Host.dotGeneral dot_S16x16_S16x2_S16x2_1_0_0_1_n_n none l r) : (⟨S16x16, .f32⟩ : BufTy).Contents (Elt F) → (⟨S16x2, .f32⟩ : BufTy).Contents (Elt F) → (⟨S16x2, .f32⟩ : BufTy).Contents (Elt F)),
    StableHlo.binary main_v1952 main_v1955 main_v1956 (addf : (⟨S16x2, .f32⟩ : BufTy).Contents (Elt F) → (⟨S16x2, .f32⟩ : BufTy).Contents (Elt F) → (⟨S16x2, .f32⟩ : BufTy).Contents (Elt F)),
    StableHlo.unary main_v1956 main_v1957 (Host.negf : (⟨S16x2, .f32⟩ : BufTy).Contents (Elt F) → (⟨S16x2, .f32⟩ : BufTy).Contents (Elt F)),
    StableHlo.unary main_v1957 main_v1958 (Host.exp : (⟨S16x2, .f32⟩ : BufTy).Contents (Elt F) → (⟨S16x2, .f32⟩ : BufTy).Contents (Elt F)),
    StableHlo.nullary main_cst_414 (constant S_ .f32 0x3F800000#32),
    StableHlo.unary main_cst_414 main_v1959 (broadcastInDim S16x2 ![] bcast_S_S16x2 : (⟨S_, .f32⟩ : BufTy).Contents (Elt F) → (⟨S16x2, .f32⟩ : BufTy).Contents (Elt F)),
    StableHlo.binary main_v1959 main_v1958 main_v1960 (addf : (⟨S16x2, .f32⟩ : BufTy).Contents (Elt F) → (⟨S16x2, .f32⟩ : BufTy).Contents (Elt F) → (⟨S16x2, .f32⟩ : BufTy).Contents (Elt F)),
    StableHlo.nullary main_cst_415 (constant S_ .f32 0x3F800000#32),
    StableHlo.unary main_cst_415 main_v1961 (broadcastInDim S16x2 ![] bcast_S_S16x2 : (⟨S_, .f32⟩ : BufTy).Contents (Elt F) → (⟨S16x2, .f32⟩ : BufTy).Contents (Elt F)),
    StableHlo.binary main_v1961 main_v1960 main_v1962 (Host.divf : (⟨S16x2, .f32⟩ : BufTy).Contents (Elt F) → (⟨S16x2, .f32⟩ : BufTy).Contents (Elt F) → (⟨S16x2, .f32⟩ : BufTy).Contents (Elt F)),
    StableHlo.unary main_arg10 main_v1963 ((extractStridedSlice S1x16x16 ![2, 0, 0] · slices_S3x16x16_S1x16x16_2_0_0) : (⟨S3x16x16, .f32⟩ : BufTy).Contents (Elt F) → (⟨S1x16x16, .f32⟩ : BufTy).Contents (Elt F)),
    StableHlo.reshape main_v1963 main_v1964 rfl shapeCasts_S1x16x16_S16x16,
    StableHlo.binary main_v1964 main_v1813 main_v1965 ((fun l r => Host.dotGeneral dot_S16x16_S16x2_S16x2_1_0_0_1_n_n none l r) : (⟨S16x16, .f32⟩ : BufTy).Contents (Elt F) → (⟨S16x2, .f32⟩ : BufTy).Contents (Elt F) → (⟨S16x2, .f32⟩ : BufTy).Contents (Elt F)),
    StableHlo.unary main_arg11 main_v1966 ((extractStridedSlice S1x16x16 ![2, 0, 0] · slices_S3x16x16_S1x16x16_2_0_0) : (⟨S3x16x16, .f32⟩ : BufTy).Contents (Elt F) → (⟨S1x16x16, .f32⟩ : BufTy).Contents (Elt F)),
    StableHlo.reshape main_v1966 main_v1967 rfl shapeCasts_S1x16x16_S16x16,
    StableHlo.binary main_v1962 main_v1813 main_v1968 (mulf : (⟨S16x2, .f32⟩ : BufTy).Contents (Elt F) → (⟨S16x2, .f32⟩ : BufTy).Contents (Elt F) → (⟨S16x2, .f32⟩ : BufTy).Contents (Elt F)),
    StableHlo.binary main_v1967 main_v1968 main_v1969 ((fun l r => Host.dotGeneral dot_S16x16_S16x2_S16x2_1_0_0_1_n_n none l r) : (⟨S16x16, .f32⟩ : BufTy).Contents (Elt F) → (⟨S16x2, .f32⟩ : BufTy).Contents (Elt F) → (⟨S16x2, .f32⟩ : BufTy).Contents (Elt F)),
    StableHlo.binary main_v1965 main_v1969 main_v1970 (addf : (⟨S16x2, .f32⟩ : BufTy).Contents (Elt F) → (⟨S16x2, .f32⟩ : BufTy).Contents (Elt F) → (⟨S16x2, .f32⟩ : BufTy).Contents (Elt F)),
    StableHlo.unary main_v1970 main_v1971 (Host.tanh : (⟨S16x2, .f32⟩ : BufTy).Contents (Elt F) → (⟨S16x2, .f32⟩ : BufTy).Contents (Elt F)),
    StableHlo.nullary main_cst_416 (constant S_ .f32 0x3F800000#32),
    StableHlo.unary main_cst_416 main_v1972 (broadcastInDim S16x2 ![] bcast_S_S16x2 : (⟨S_, .f32⟩ : BufTy).Contents (Elt F) → (⟨S16x2, .f32⟩ : BufTy).Contents (Elt F)),
    StableHlo.binary main_v1972 main_v1949 main_v1973 (subf : (⟨S16x2, .f32⟩ : BufTy).Contents (Elt F) → (⟨S16x2, .f32⟩ : BufTy).Contents (Elt F) → (⟨S16x2, .f32⟩ : BufTy).Contents (Elt F)),
    StableHlo.binary main_v1973 main_v1813 main_v1974 (mulf : (⟨S16x2, .f32⟩ : BufTy).Contents (Elt F) → (⟨S16x2, .f32⟩ : BufTy).Contents (Elt F) → (⟨S16x2, .f32⟩ : BufTy).Contents (Elt F)),
    StableHlo.binary main_v1949 main_v1971 main_v1975 (mulf : (⟨S16x2, .f32⟩ : BufTy).Contents (Elt F) → (⟨S16x2, .f32⟩ : BufTy).Contents (Elt F) → (⟨S16x2, .f32⟩ : BufTy).Contents (Elt F)),
    StableHlo.binary main_v1974 main_v1975 main_v1976 (addf : (⟨S16x2, .f32⟩ : BufTy).Contents (Elt F) → (⟨S16x2, .f32⟩ : BufTy).Contents (Elt F) → (⟨S16x2, .f32⟩ : BufTy).Contents (Elt F)),
    StableHlo.unary main_v1976 main_v1977 ((extractStridedSlice S16x1 ![0, 0] · slices_S16x2_S16x1_0_0) : (⟨S16x2, .f32⟩ : BufTy).Contents (Elt F) → (⟨S16x1, .f32⟩ : BufTy).Contents (Elt F)),
    StableHlo.unary main_v1976 main_v1978 ((extractStridedSlice S16x1 ![0, 1] · slices_S16x2_S16x1_0_1) : (⟨S16x2, .f32⟩ : BufTy).Contents (Elt F) → (⟨S16x1, .f32⟩ : BufTy).Contents (Elt F)),
    StableHlo.reshape main_arg8 main_v1979 rfl shapeCasts_S1x256x8_S256x8,
    StableHlo.binary main_v1767 main_v1767 main_v1980 (mulf : (⟨S2048x256, .f32⟩ : BufTy).Contents (Elt F) → (⟨S2048x256, .f32⟩ : BufTy).Contents (Elt F) → (⟨S2048x256, .f32⟩ : BufTy).Contents (Elt F)) ]

set_option maxRecDepth 16384 in
set_option maxHeartbeats 4000000 in
/-- The window is that line: the called functions unfold at their calls and sequencing re-associates. -/
theorem main_part39_eq (c : Dev nD) : main_part39 (F := F) c = StableHlo.seq ops_part39 := rfl

set_option maxRecDepth 16384 in
set_option maxHeartbeats 4000000 in
/-- Every operation of the window is good; the result's index is compared by computation. -/
theorem ops_part39_good : (ops_part39 : List (HloOp τ sig (Elt F))).Forall (Good 12) :=
  ⟨unary_good (h := by decide) .., binary_good (h := by decide) .., unary_good (h := by decide) .., nullary_good (h := by decide) ..,
    binary_good (h := by decide) .., unary_good (h := by decide) .., unary_good (h := by decide) .., binary_good (h := by decide) ..,
    unary_good (h := by decide) .., binary_good (h := by decide) .., nullary_good (h := by decide) .., unary_good (h := by decide) ..,
    binary_good (h := by decide) .., nullary_good (h := by decide) .., unary_good (h := by decide) .., binary_good (h := by decide) ..,
    nullary_good (h := by decide) .., unary_good (h := by decide) .., unary_good (h := by decide) .., ternary_good (h := by decide) ..,
    unary_good (h := by decide) .., nullary_good (h := by decide) .., unary_good (h := by decide) .., binary_good (h := by decide) ..,
    ternary_good (h := by decide) .., unary_good (h := by decide) .., reshape_good (h := by decide) .., binary_good (h := by decide) ..,
    unary_good (h := by decide) .., reshape_good (h := by decide) .., binary_good (h := by decide) .., binary_good (h := by decide) ..,
    unary_good (h := by decide) .., unary_good (h := by decide) .., nullary_good (h := by decide) .., unary_good (h := by decide) ..,
    binary_good (h := by decide) .., nullary_good (h := by decide) .., unary_good (h := by decide) .., binary_good (h := by decide) ..,
    unary_good (h := by decide) .., reshape_good (h := by decide) .., binary_good (h := by decide) .., unary_good (h := by decide) ..,
    reshape_good (h := by decide) .., binary_good (h := by decide) .., binary_good (h := by decide) .., unary_good (h := by decide) ..,
    unary_good (h := by decide) .., nullary_good (h := by decide) .., unary_good (h := by decide) .., binary_good (h := by decide) ..,
    nullary_good (h := by decide) .., unary_good (h := by decide) .., binary_good (h := by decide) .., unary_good (h := by decide) ..,
    reshape_good (h := by decide) .., binary_good (h := by decide) .., unary_good (h := by decide) .., reshape_good (h := by decide) ..,
    binary_good (h := by decide) .., binary_good (h := by decide) .., binary_good (h := by decide) .., unary_good (h := by decide) ..,
    nullary_good (h := by decide) .., unary_good (h := by decide) .., binary_good (h := by decide) .., binary_good (h := by decide) ..,
    binary_good (h := by decide) .., binary_good (h := by decide) .., unary_good (h := by decide) .., unary_good (h := by decide) ..,
    reshape_good (h := by decide) .., binary_good (h := by decide) ..⟩

end Cert.ReferenceIdeal.Hand

end
-- ==== Proof.Ref.W40.lean ====
import proofs.«146970_j35948876268088_1_alg».proof.ReferenceIdeal.P07
import proofs.«146970_j35948876268088_1_alg».proof.Proof.Ref.Keep

noncomputable section

namespace Cert.ReferenceIdeal.Hand

open Cert.ReferenceIdeal Idealize.ShloMosaic Idealize.ShloMosaic.TcCoe Idealize.SL.Sem Idealize.ShloMosaic.StableHlo

variable {F : FTy → Type} [FloatOps F]

variable [Facts]
open Facts₀ Facts

set_option maxHeartbeats 4000000 in
/-- The operations of window 40, in order; a called function's operations stand in its call's place. -/
abbrev ops_part40 : List (HloOp τ sig (Elt F)) :=
  [ StableHlo.nullary main_cst_417 (constant S_ .f32 0x00000000#32),
    StableHlo.binary main_v1980 main_cst_417 main_v1981 ((fun x v => Host.reduceAdd x v reducesTo_S2048x256_S2048_d1 h_S_) : (⟨S2048x256, .f32⟩ : BufTy).Contents (Elt F) → (⟨S_, .f32⟩ : BufTy).Contents (Elt F) → (⟨S2048, .f32⟩ : BufTy).Contents (Elt F)),
    StableHlo.unary main_v1981 main_v1982 (Host.sqrt : (⟨S2048, .f32⟩ : BufTy).Contents (Elt F) → (⟨S2048, .f32⟩ : BufTy).Contents (Elt F)),
    StableHlo.unary main_v1767 main_v1983 ((transpose S256x2048 [1, 0] · transposes_S2048x256_S256x2048_1_0) : (⟨S2048x256, .f32⟩ : BufTy).Contents (Elt F) → (⟨S256x2048, .f32⟩ : BufTy).Contents (Elt F)),
    StableHlo.binary main_v1767 main_v1983 main_v1984 ((fun l r => Host.dotGeneral dot_S2048x256_S256x2048_S2048x2048_1_0_0_1_n_n none l r) : (⟨S2048x256, .f32⟩ : BufTy).Contents (Elt F) → (⟨S256x2048, .f32⟩ : BufTy).Contents (Elt F) → (⟨S2048x2048, .f32⟩ : BufTy).Contents (Elt F)),
    StableHlo.unary main_v1982 main_v1985 (broadcastInDim S2048x1 ![0] bcast_S2048_S2048x1_0 : (⟨S2048, .f32⟩ : BufTy).Contents (Elt F) → (⟨S2048x1, .f32⟩ : BufTy).Contents (Elt F)),
    StableHlo.unary main_v1982 main_v1986 (broadcastInDim S1x2048 ![1] bcast_S2048_S1x2048_1 : (⟨S2048, .f32⟩ : BufTy).Contents (Elt F) → (⟨S1x2048, .f32⟩ : BufTy).Contents (Elt F)),
    StableHlo.unary main_v1985 main_v1987 (broadcastInDim S2048x2048 ![0, 1] bcast_S2048x1_S2048x2048_0_1 : (⟨S2048x1, .f32⟩ : BufTy).Contents (Elt F) → (⟨S2048x2048, .f32⟩ : BufTy).Contents (Elt F)),
    StableHlo.unary main_v1986 main_v1988 (broadcastInDim S2048x2048 ![0, 1] bcast_S1x2048_S2048x2048_0_1 : (⟨S1x2048, .f32⟩ : BufTy).Contents (Elt F) → (⟨S2048x2048, .f32⟩ : BufTy).Contents (Elt F)),
    StableHlo.binary main_v1987 main_v1988 main_v1989 (mulf : (⟨S2048x2048, .f32⟩ : BufTy).Contents (Elt F) → (⟨S2048x2048, .f32⟩ : BufTy).Contents (Elt F) → (⟨S2048x2048, .f32⟩ : BufTy).Contents (Elt F)),
    StableHlo.binary main_v1984 main_v1989 main_v1990 (Host.divf : (⟨S2048x2048, .f32⟩ : BufTy).Contents (Elt F) → (⟨S2048x2048, .f32⟩ : BufTy).Contents (Elt F) → (⟨S2048x2048, .f32⟩ : BufTy).Contents (Elt F)),
    StableHlo.nullary main_v1991 (iotaInDim S2048x2048 32 0),
    StableHlo.nullary main_v1992 (iotaInDim S2048x2048 32 1),
    StableHlo.nullary main_c_418 (constantI S_ 32 0#32),
    StableHlo.unary main_c_418 main_v1993 (broadcastInDim S2048x2048 ![] bcast_S_S2048x2048 : (⟨S_, .i32⟩ : BufTy).Contents (Elt F) → (⟨S2048x2048, .i32⟩ : BufTy).Contents (Elt F)),
    StableHlo.binary main_v1991 main_v1993 main_v1994 (addi : (⟨S2048x2048, .i32⟩ : BufTy).Contents (Elt F) → (⟨S2048x2048, .i32⟩ : BufTy).Contents (Elt F) → (⟨S2048x2048, .i32⟩ : BufTy).Contents (Elt F)),
    StableHlo.binary main_v1994 main_v1992 main_v1995 (cmpi .eq : (⟨S2048x2048, .i32⟩ : BufTy).Contents (Elt F) → (⟨S2048x2048, .i32⟩ : BufTy).Contents (Elt F) → (⟨S2048x2048, .i1⟩ : BufTy).Contents (Elt F)),
    StableHlo.unary main_v1995 main_v1996 (uitofp .f32 : (⟨S2048x2048, .i1⟩ : BufTy).Contents (Elt F) → (⟨S2048x2048, .f32⟩ : BufTy).Contents (Elt F)),
    StableHlo.nullary main_cst_419 (constant S_ .f32 0x3F800000#32),
    StableHlo.unary main_cst_419 main_v1997 (broadcastInDim S2048x2048 ![] bcast_S_S2048x2048 : (⟨S_, .f32⟩ : BufTy).Contents (Elt F) → (⟨S2048x2048, .f32⟩ : BufTy).Contents (Elt F)),
    StableHlo.binary main_v1997 main_v1996 main_v1998 (subf : (⟨S2048x2048, .f32⟩ : BufTy).Contents (Elt F) → (⟨S2048x2048, .f32⟩ : BufTy).Contents (Elt F) → (⟨S2048x2048, .f32⟩ : BufTy).Contents (Elt F)),
    StableHlo.nullary main_cst_420 (constant S_ .f32 0x3F000000#32),
    StableHlo.unary main_cst_420 main_v1999 (broadcastInDim S2048x2048 ![] bcast_S_S2048x2048 : (⟨S_, .f32⟩ : BufTy).Contents (Elt F) → (⟨S2048x2048, .f32⟩ : BufTy).Contents (Elt F)),
    StableHlo.binary main_v1990 main_v1999 main_v2000 (cmpf .ogt : (⟨S2048x2048, .f32⟩ : BufTy).Contents (Elt F) → (⟨S2048x2048, .f32⟩ : BufTy).Contents (Elt F) → (⟨S2048x2048, .i1⟩ : BufTy).Contents (Elt F)),
    StableHlo.nullary main_cst_421 (constant S_ .f32 0x00000000#32),
    StableHlo.TRef.unary (StableHlo.TRef.of (T := ⟨S_, .f32⟩) main_cst_421) main_call94.v0 id,
    StableHlo.TRef.unary main_call94.v0 main_call94.v1 (broadcastInDim S2048x2048 ![] bcast_S_S2048x2048),
    StableHlo.TRef.ternary (StableHlo.TRef.of (T := ⟨S2048x2048, .i1⟩) main_v2000) (StableHlo.TRef.of (T := ⟨S2048x2048, .f32⟩) main_v1990) main_call94.v1 main_call94.v2 select,
    StableHlo.binary main_v2001 main_v1998 main_v2002 (mulf : (⟨S2048x2048, .f32⟩ : BufTy).Contents (Elt F) → (⟨S2048x2048, .f32⟩ : BufTy).Contents (Elt F) → (⟨S2048x2048, .f32⟩ : BufTy).Contents (Elt F)),
    StableHlo.unary main_v74 main_v2003 ((transpose S2048x2048 [1, 0] · transposes_S2048x2048_S2048x2048_1_0) : (⟨S2048x2048, .f32⟩ : BufTy).Contents (Elt F) → (⟨S2048x2048, .f32⟩ : BufTy).Contents (Elt F)),
    StableHlo.binary main_v74 main_v2003 main_v2004 ((fun l r => Host.dotGeneral dot_S2048x2048_S2048x2048_S2048x2048_1_0_0_1_n_n none l r) : (⟨S2048x2048, .f32⟩ : BufTy).Contents (Elt F) → (⟨S2048x2048, .f32⟩ : BufTy).Contents (Elt F) → (⟨S2048x2048, .f32⟩ : BufTy).Contents (Elt F)),
    StableHlo.nullary main_cst_422 (constant S_ .f32 0x00000000#32),
    StableHlo.unary main_cst_422 main_v2005 (broadcastInDim S2048x2048 ![] bcast_S_S2048x2048 : (⟨S_, .f32⟩ : BufTy).Contents (Elt F) → (⟨S2048x2048, .f32⟩ : BufTy).Contents (Elt F)),
    StableHlo.binary main_v2004 main_v2005 main_v2006 (cmpf .ogt : (⟨S2048x2048, .f32⟩ : BufTy).Contents (Elt F) → (⟨S2048x2048, .f32⟩ : BufTy).Contents (Elt F) → (⟨S2048x2048, .i1⟩ : BufTy).Contents (Elt F)),
    StableHlo.unary main_v2006 main_v2007 (uitofp .f32 : (⟨S2048x2048, .i1⟩ : BufTy).Contents (Elt F) → (⟨S2048x2048, .f32⟩ : BufTy).Contents (Elt F)),
    StableHlo.binary main_v2007 main_v1998 main_v2008 (mulf : (⟨S2048x2048, .f32⟩ : BufTy).Contents (Elt F) → (⟨S2048x2048, .f32⟩ : BufTy).Contents (Elt F) → (⟨S2048x2048, .f32⟩ : BufTy).Contents (Elt F)),
    StableHlo.binary main_v2002 main_v2008 main_v2009 (mulf : (⟨S2048x2048, .f32⟩ : BufTy).Contents (Elt F) → (⟨S2048x2048, .f32⟩ : BufTy).Contents (Elt F) → (⟨S2048x2048, .f32⟩ : BufTy).Contents (Elt F)),
    StableHlo.nullary main_cst_423 (constant S_ .f32 0x00000000#32),
    StableHlo.binary main_v2009 main_cst_423 main_v2010 ((fun x v => Host.reduceAdd x v reducesTo_S2048x2048_S2048_d1 h_S_) : (⟨S2048x2048, .f32⟩ : BufTy).Contents (Elt F) → (⟨S_, .f32⟩ : BufTy).Contents (Elt F) → (⟨S2048, .f32⟩ : BufTy).Contents (Elt F)),
    StableHlo.unary main_v2010 main_v2011 (broadcastInDim S2048x1 ![0] bcast_S2048_S2048x1_0 : (⟨S2048, .f32⟩ : BufTy).Contents (Elt F) → (⟨S2048x1, .f32⟩ : BufTy).Contents (Elt F)),
    StableHlo.unary main_v2011 main_v2012 (broadcastInDim S2048x2048 ![0, 1] bcast_S2048x1_S2048x2048_0_1 : (⟨S2048x1, .f32⟩ : BufTy).Contents (Elt F) → (⟨S2048x2048, .f32⟩ : BufTy).Contents (Elt F)),
    StableHlo.binary main_v74 main_v2012 main_v2013 (mulf : (⟨S2048x2048, .f32⟩ : BufTy).Contents (Elt F) → (⟨S2048x2048, .f32⟩ : BufTy).Contents (Elt F) → (⟨S2048x2048, .f32⟩ : BufTy).Contents (Elt F)),
    StableHlo.nullary main_cst_424 (constant S_ .f32 0x00000000#32),
    StableHlo.binary main_v2013 main_cst_424 main_v2014 ((fun x v => Host.reduceAdd x v reducesTo_S2048x2048_S2048_d0 h_S_) : (⟨S2048x2048, .f32⟩ : BufTy).Contents (Elt F) → (⟨S_, .f32⟩ : BufTy).Contents (Elt F) → (⟨S2048, .f32⟩ : BufTy).Contents (Elt F)),
    StableHlo.unary main_v2014 main_v2015 (broadcastInDim S2048x1 ![0] bcast_S2048_S2048x1_0 : (⟨S2048, .f32⟩ : BufTy).Contents (Elt F) → (⟨S2048x1, .f32⟩ : BufTy).Contents (Elt F)),
    StableHlo.binary main_v1767 main_v1979 main_v2016 ((fun l r => Host.dotGeneral dot_S2048x256_S256x8_S2048x8_1_0_0_1_n_n none l r) : (⟨S2048x256, .f32⟩ : BufTy).Contents (Elt F) → (⟨S256x8, .f32⟩ : BufTy).Contents (Elt F) → (⟨S2048x8, .f32⟩ : BufTy).Contents (Elt F)),
    StableHlo.binary main_v1767 main_v1979 main_v2017 ((fun l r => Host.dotGeneral dot_S2048x256_S256x8_S2048x8_1_0_0_1_n_n none l r) : (⟨S2048x256, .f32⟩ : BufTy).Contents (Elt F) → (⟨S256x8, .f32⟩ : BufTy).Contents (Elt F) → (⟨S2048x8, .f32⟩ : BufTy).Contents (Elt F)),
    StableHlo.binary main_v89 main_v1979 main_v2018 ((fun l r => Host.dotGeneral dot_S2048x256_S256x8_S2048x8_1_0_0_1_n_n none l r) : (⟨S2048x256, .f32⟩ : BufTy).Contents (Elt F) → (⟨S256x8, .f32⟩ : BufTy).Contents (Elt F) → (⟨S2048x8, .f32⟩ : BufTy).Contents (Elt F)),
    StableHlo.unary main_v1977 main_v2019 ((extractStridedSlice S8x1 ![0, 0] · slices_S16x1_S8x1_0_0) : (⟨S16x1, .f32⟩ : BufTy).Contents (Elt F) → (⟨S8x1, .f32⟩ : BufTy).Contents (Elt F)),
    StableHlo.binary main_v2017 main_v2019 main_v2020 ((fun l r => Host.dotGeneral dot_S2048x8_S8x1_S2048x1_1_0_0_1_n_n none l r) : (⟨S2048x8, .f32⟩ : BufTy).Contents (Elt F) → (⟨S8x1, .f32⟩ : BufTy).Contents (Elt F) → (⟨S2048x1, .f32⟩ : BufTy).Contents (Elt F)),
    StableHlo.unary main_v1977 main_v2021 ((extractStridedSlice S8x1 ![8, 0] · slices_S16x1_S8x1_8_0) : (⟨S16x1, .f32⟩ : BufTy).Contents (Elt F) → (⟨S8x1, .f32⟩ : BufTy).Contents (Elt F)),
    StableHlo.binary main_v2018 main_v2021 main_v2022 ((fun l r => Host.dotGeneral dot_S2048x8_S8x1_S2048x1_1_0_0_1_n_n none l r) : (⟨S2048x8, .f32⟩ : BufTy).Contents (Elt F) → (⟨S8x1, .f32⟩ : BufTy).Contents (Elt F) → (⟨S2048x1, .f32⟩ : BufTy).Contents (Elt F)),
    StableHlo.unary main_v2022 main_v2023 ((transpose S1x2048 [1, 0] · transposes_S2048x1_S1x2048_1_0) : (⟨S2048x1, .f32⟩ : BufTy).Contents (Elt F) → (⟨S1x2048, .f32⟩ : BufTy).Contents (Elt F)),
    StableHlo.unary main_v2020 main_v2024 (broadcastInDim S2048x2048 ![0, 1] bcast_S2048x1_S2048x2048_0_1 : (⟨S2048x1, .f32⟩ : BufTy).Contents (Elt F) → (⟨S2048x2048, .f32⟩ : BufTy).Contents (Elt F)),
    StableHlo.unary main_v2023 main_v2025 (broadcastInDim S2048x2048 ![0, 1] bcast_S1x2048_S2048x2048_0_1 : (⟨S1x2048, .f32⟩ : BufTy).Contents (Elt F) → (⟨S2048x2048, .f32⟩ : BufTy).Contents (Elt F)),
    StableHlo.binary main_v2024 main_v2025 main_v2026 (addf : (⟨S2048x2048, .f32⟩ : BufTy).Contents (Elt F) → (⟨S2048x2048, .f32⟩ : BufTy).Contents (Elt F) → (⟨S2048x2048, .f32⟩ : BufTy).Contents (Elt F)),
    StableHlo.nullary main_cst_425 (constant S_ .f32 0x3E4CCCCD#32),
    StableHlo.TRef.nullary main_call95.cst (constant S_ .f32 0x00000000#32),
    StableHlo.TRef.unary main_call95.cst main_call95.v0 (broadcastInDim S2048x2048 ![] bcast_S_S2048x2048),
    StableHlo.TRef.binary (StableHlo.TRef.of (T := ⟨S2048x2048, .f32⟩) main_v2026) main_call95.v0 main_call95.v1 (cmpf .oge),
    StableHlo.TRef.unary (StableHlo.TRef.of (T := ⟨S_, .f32⟩) main_cst_425) main_call95.v2 id,
    StableHlo.TRef.unary main_call95.v2 main_call95.v3 (broadcastInDim S2048x2048 ![] bcast_S_S2048x2048),
    StableHlo.TRef.binary main_call95.v3 (StableHlo.TRef.of (T := ⟨S2048x2048, .f32⟩) main_v2026) main_call95.v4 mulf,
    StableHlo.TRef.ternary main_call95.v1 (StableHlo.TRef.of (T := ⟨S2048x2048, .f32⟩) main_v2026) main_call95.v4 main_call95.call0.v0 select,
    StableHlo.nullary main_cst_426 (constant S_ .f32 0x7F800000#32),
    StableHlo.binary main_v2011 main_cst_426 main_v2028 ((fun x v => Host.reduce FloatOps.minimumf x v reducesTo_S2048x1_S_d0_1 h_S_) : (⟨S2048x1, .f32⟩ : BufTy).Contents (Elt F) → (⟨S_, .f32⟩ : BufTy).Contents (Elt F) → (⟨S_, .f32⟩ : BufTy).Contents (Elt F)),
    StableHlo.unary main_v2028 main_v2029 (broadcastInDim S2048x1 ![] bcast_S_S2048x1 : (⟨S_, .f32⟩ : BufTy).Contents (Elt F) → (⟨S2048x1, .f32⟩ : BufTy).Contents (Elt F)),
    StableHlo.binary main_v2011 main_v2029 main_v2030 (subf : (⟨S2048x1, .f32⟩ : BufTy).Contents (Elt F) → (⟨S2048x1, .f32⟩ : BufTy).Contents (Elt F) → (⟨S2048x1, .f32⟩ : BufTy).Contents (Elt F)) ]

set_option maxRecDepth 16384 in
set_option maxHeartbeats 4000000 in
/-- The window is that line: the called functions unfold at their calls and sequencing re-associates. -/
theorem main_part40_eq (c : Dev nD) : main_part40 (F := F) c = StableHlo.seq ops_part40 := rfl

set_option maxRecDepth 16384 in
set_option maxHeartbeats 4000000 in
/-- Every operation of the window is good; the result's index is compared by computation. -/
theorem ops_part40_good : (ops_part40 : List (HloOp τ sig (Elt F))).Forall (Good 12) :=
  ⟨nullary_good (h := by decide) .., binary_good (h := by decide) .., unary_good (h := by decide) .., unary_good (h := by decide) ..,
    binary_good (h := by decide) .., unary_good (h := by decide) .., unary_good (h := by decide) .., unary_good (h := by decide) ..,
    unary_good (h := by decide) .., binary_good (h := by decide) .., binary_good (h := by decide) .., nullary_good (h := by decide) ..,
    nullary_good (h := by decide) .., nullary_good (h := by decide) .., unary_good (h := by decide) .., binary_good (h := by decide) ..,
    binary_good (h := by decide) .., unary_good (h := by decide) .., nullary_good (h := by decide) .., unary_good (h := by decide) ..,
    binary_good (h := by decide) .., nullary_good (h := by decide) .., unary_good (h := by decide) .., binary_good (h := by decide) ..,
    nullary_good (h := by decide) .., unary_good (h := by decide) .., unary_good (h := by decide) .., ternary_good (h := by decide) ..,
    binary_good (h := by decide) .., unary_good (h := by decide) .., binary_good (h := by decide) .., nullary_good (h := by decide) ..,
    unary_good (h := by decide) .., binary_good (h := by decide) .., unary_good (h := by decide) .., binary_good (h := by decide) ..,
    binary_good (h := by decide) .., nullary_good (h := by decide) .., binary_good (h := by decide) .., unary_good (h := by decide) ..,
    unary_good (h := by decide) .., binary_good (h := by decide) .., nullary_good (h := by decide) .., binary_good (h := by decide) ..,
    unary_good (h := by decide) .., binary_good (h := by decide) .., binary_good (h := by decide) .., binary_good (h := by decide) ..,
    unary_good (h := by decide) .., binary_good (h := by decide) .., unary_good (h := by decide) .., binary_good (h := by decide) ..,
    unary_good (h := by decide) .., unary_good (h := by decide) .., unary_good (h := by decide) .., binary_good (h := by decide) ..,
    nullary_good (h := by decide) .., nullary_good (h := by decide) .., unary_good (h := by decide) .., binary_good (h := by decide) ..,
    unary_good (h := by decide) .., unary_good (h := by decide) .., binary_good (h := by decide) .., ternary_good (h := by decide) ..,
    nullary_good (h := by decide) .., binary_good (h := by decide) .., unary_good (h := by decide) .., binary_good (h := by decide) ..⟩

end Cert.ReferenceIdeal.Hand

end
-- ==== Proof.Ref.W41.lean ====
import proofs.«146970_j35948876268088_1_alg».proof.ReferenceIdeal.P07
import proofs.«146970_j35948876268088_1_alg».proof.Proof.Ref.Keep

noncomputable section

namespace Cert.ReferenceIdeal.Hand

open Cert.ReferenceIdeal Idealize.ShloMosaic Idealize.ShloMosaic.TcCoe Idealize.SL.Sem Idealize.ShloMosaic.StableHlo

variable {F : FTy → Type} [FloatOps F]

variable [Facts]
open Facts₀ Facts

set_option maxHeartbeats 4000000 in
/-- The operations of window 41, in order; a called function's operations stand in its call's place. -/
abbrev ops_part41 : List (HloOp τ sig (Elt F)) :=
  [ StableHlo.nullary main_cst_427 (constant S_ .f32 0xFF800000#32),
    StableHlo.binary main_v2011 main_cst_427 main_v2031 ((fun x v => Host.reduce FloatOps.maximumf x v reducesTo_S2048x1_S_d0_1 h_S_) : (⟨S2048x1, .f32⟩ : BufTy).Contents (Elt F) → (⟨S_, .f32⟩ : BufTy).Contents (Elt F) → (⟨S_, .f32⟩ : BufTy).Contents (Elt F)),
    StableHlo.nullary main_cst_428 (constant S_ .f32 0x7F800000#32),
    StableHlo.binary main_v2011 main_cst_428 main_v2032 ((fun x v => Host.reduce FloatOps.minimumf x v reducesTo_S2048x1_S_d0_1 h_S_) : (⟨S2048x1, .f32⟩ : BufTy).Contents (Elt F) → (⟨S_, .f32⟩ : BufTy).Contents (Elt F) → (⟨S_, .f32⟩ : BufTy).Contents (Elt F)),
    StableHlo.binary main_v2031 main_v2032 main_v2033 (subf : (⟨S_, .f32⟩ : BufTy).Contents (Elt F) → (⟨S_, .f32⟩ : BufTy).Contents (Elt F) → (⟨S_, .f32⟩ : BufTy).Contents (Elt F)),
    StableHlo.unary main_v2033 main_v2034 (broadcastInDim S2048x1 ![] bcast_S_S2048x1 : (⟨S_, .f32⟩ : BufTy).Contents (Elt F) → (⟨S2048x1, .f32⟩ : BufTy).Contents (Elt F)),
    StableHlo.binary main_v2030 main_v2034 main_v2035 (Host.divf : (⟨S2048x1, .f32⟩ : BufTy).Contents (Elt F) → (⟨S2048x1, .f32⟩ : BufTy).Contents (Elt F) → (⟨S2048x1, .f32⟩ : BufTy).Contents (Elt F)),
    StableHlo.nullary main_cst_429 (constant S_ .f32 0xFF800000#32),
    StableHlo.binary main_v2027 main_cst_429 main_v2036 ((fun x v => Host.reduce FloatOps.maximumf x v reducesTo_S2048x2048_S_d0_1 h_S_) : (⟨S2048x2048, .f32⟩ : BufTy).Contents (Elt F) → (⟨S_, .f32⟩ : BufTy).Contents (Elt F) → (⟨S_, .f32⟩ : BufTy).Contents (Elt F)),
    StableHlo.unary main_v2036 main_v2037 (broadcastInDim S2048x1 ![] bcast_S_S2048x1 : (⟨S_, .f32⟩ : BufTy).Contents (Elt F) → (⟨S2048x1, .f32⟩ : BufTy).Contents (Elt F)),
    StableHlo.binary main_v2035 main_v2037 main_v2038 (mulf : (⟨S2048x1, .f32⟩ : BufTy).Contents (Elt F) → (⟨S2048x1, .f32⟩ : BufTy).Contents (Elt F) → (⟨S2048x1, .f32⟩ : BufTy).Contents (Elt F)),
    StableHlo.nullary main_cst_430 (constant S_ .f32 0x00000000#32),
    StableHlo.unary main_cst_430 main_v2039 (broadcastInDim S2048x2048 ![] bcast_S_S2048x2048 : (⟨S_, .f32⟩ : BufTy).Contents (Elt F) → (⟨S2048x2048, .f32⟩ : BufTy).Contents (Elt F)),
    StableHlo.binary main_v74 main_v2039 main_v2040 (cmpf .ogt : (⟨S2048x2048, .f32⟩ : BufTy).Contents (Elt F) → (⟨S2048x2048, .f32⟩ : BufTy).Contents (Elt F) → (⟨S2048x2048, .i1⟩ : BufTy).Contents (Elt F)),
    StableHlo.unary main_v2038 main_v2041 (broadcastInDim S2048x2048 ![0, 1] bcast_S2048x1_S2048x2048_0_1 : (⟨S2048x1, .f32⟩ : BufTy).Contents (Elt F) → (⟨S2048x2048, .f32⟩ : BufTy).Contents (Elt F)),
    StableHlo.binary main_v2027 main_v2041 main_v2042 (addf : (⟨S2048x2048, .f32⟩ : BufTy).Contents (Elt F) → (⟨S2048x2048, .f32⟩ : BufTy).Contents (Elt F) → (⟨S2048x2048, .f32⟩ : BufTy).Contents (Elt F)),
    StableHlo.nullary main_cst_431 (constant S_ .f32 0xD368D4A5#32),
    StableHlo.TRef.unary (StableHlo.TRef.of (T := ⟨S_, .f32⟩) main_cst_431) main_call96.v0 id,
    StableHlo.TRef.unary main_call96.v0 main_call96.v1 (broadcastInDim S2048x2048 ![] bcast_S_S2048x2048),
    StableHlo.TRef.ternary (StableHlo.TRef.of (T := ⟨S2048x2048, .i1⟩) main_v2040) (StableHlo.TRef.of (T := ⟨S2048x2048, .f32⟩) main_v2042) main_call96.v1 main_call96.v2 select,
    StableHlo.nullary main_cst_432 (constant S_ .f32 0xFF800000#32),
    StableHlo.binary main_v2043 main_cst_432 main_v2044 ((fun x v => Host.reduce FloatOps.maximumf x v reducesTo_S2048x2048_S2048_d1 h_S_) : (⟨S2048x2048, .f32⟩ : BufTy).Contents (Elt F) → (⟨S_, .f32⟩ : BufTy).Contents (Elt F) → (⟨S2048, .f32⟩ : BufTy).Contents (Elt F)),
    StableHlo.nullary main_cst_433 (constant S_ .f32 0xFF800000#32),
    StableHlo.unary main_cst_433 main_v2045 (broadcastInDim S2048 ![] bcast_S_S2048 : (⟨S_, .f32⟩ : BufTy).Contents (Elt F) → (⟨S2048, .f32⟩ : BufTy).Contents (Elt F)),
    StableHlo.binary main_v2045 main_v2044 main_v2046 (maximumf : (⟨S2048, .f32⟩ : BufTy).Contents (Elt F) → (⟨S2048, .f32⟩ : BufTy).Contents (Elt F) → (⟨S2048, .f32⟩ : BufTy).Contents (Elt F)),
    StableHlo.unary main_v2046 main_v2047 (broadcastInDim S2048x1 ![0] bcast_S2048_S2048x1_0 : (⟨S2048, .f32⟩ : BufTy).Contents (Elt F) → (⟨S2048x1, .f32⟩ : BufTy).Contents (Elt F)),
    StableHlo.unary main_v2047 main_v2048 (broadcastInDim S2048x2048 ![0, 1] bcast_S2048x1_S2048x2048_0_1 : (⟨S2048x1, .f32⟩ : BufTy).Contents (Elt F) → (⟨S2048x2048, .f32⟩ : BufTy).Contents (Elt F)),
    StableHlo.binary main_v2043 main_v2048 main_v2049 (subf : (⟨S2048x2048, .f32⟩ : BufTy).Contents (Elt F) → (⟨S2048x2048, .f32⟩ : BufTy).Contents (Elt F) → (⟨S2048x2048, .f32⟩ : BufTy).Contents (Elt F)),
    StableHlo.unary main_v2049 main_v2050 (Host.exp : (⟨S2048x2048, .f32⟩ : BufTy).Contents (Elt F) → (⟨S2048x2048, .f32⟩ : BufTy).Contents (Elt F)),
    StableHlo.nullary main_cst_434 (constant S_ .f32 0x00000000#32),
    StableHlo.binary main_v2050 main_cst_434 main_v2051 ((fun x v => Host.reduceAdd x v reducesTo_S2048x2048_S2048_d1 h_S_) : (⟨S2048x2048, .f32⟩ : BufTy).Contents (Elt F) → (⟨S_, .f32⟩ : BufTy).Contents (Elt F) → (⟨S2048, .f32⟩ : BufTy).Contents (Elt F)),
    StableHlo.unary main_v2051 main_v2052 (broadcastInDim S2048x1 ![0] bcast_S2048_S2048x1_0 : (⟨S2048, .f32⟩ : BufTy).Contents (Elt F) → (⟨S2048x1, .f32⟩ : BufTy).Contents (Elt F)),
    StableHlo.unary main_v2052 main_v2053 (broadcastInDim S2048x2048 ![0, 1] bcast_S2048x1_S2048x2048_0_1 : (⟨S2048x1, .f32⟩ : BufTy).Contents (Elt F) → (⟨S2048x2048, .f32⟩ : BufTy).Contents (Elt F)),
    StableHlo.binary main_v2050 main_v2053 main_v2054 (Host.divf : (⟨S2048x2048, .f32⟩ : BufTy).Contents (Elt F) → (⟨S2048x2048, .f32⟩ : BufTy).Contents (Elt F) → (⟨S2048x2048, .f32⟩ : BufTy).Contents (Elt F)),
    StableHlo.unary main_v2054 main_v2055 ((transpose S2048x2048 [1, 0] · transposes_S2048x2048_S2048x2048_1_0) : (⟨S2048x2048, .f32⟩ : BufTy).Contents (Elt F) → (⟨S2048x2048, .f32⟩ : BufTy).Contents (Elt F)),
    StableHlo.binary main_v2055 main_v2016 main_v2056 ((fun l r => Host.dotGeneral dot_S2048x2048_S2048x8_S2048x8_1_0_0_1_n_n none l r) : (⟨S2048x2048, .f32⟩ : BufTy).Contents (Elt F) → (⟨S2048x8, .f32⟩ : BufTy).Contents (Elt F) → (⟨S2048x8, .f32⟩ : BufTy).Contents (Elt F)),
    StableHlo.TRef.nullary main_call97.cst (constant S_ .f32 0x00000000#32),
    StableHlo.TRef.unary main_call97.cst main_call97.v0 (broadcastInDim S2048x8 ![] bcast_S_S2048x8),
    StableHlo.TRef.binary (StableHlo.TRef.of (T := ⟨S2048x8, .f32⟩) main_v2056) main_call97.v0 main_call97.v1 (cmpf .ogt),
    StableHlo.TRef.nullary main_call97.cst_0 (constant S_ .f32 0x00000000#32),
    StableHlo.TRef.unary main_call97.cst_0 main_call97.v2 (broadcastInDim S2048x8 ![] bcast_S_S2048x8),
    StableHlo.TRef.binary (StableHlo.TRef.of (T := ⟨S2048x8, .f32⟩) main_v2056) main_call97.v2 main_call97.v3 (cmpf .ogt),
    StableHlo.TRef.nullary main_call97.cst_1 (constant S_ .f32 0x00000000#32),
    StableHlo.TRef.unary main_call97.cst_1 main_call97.call0.v0 id,
    StableHlo.TRef.unary main_call97.call0.v0 main_call97.call0.v1 (broadcastInDim S2048x8 ![] bcast_S_S2048x8),
    StableHlo.TRef.ternary main_call97.v3 main_call97.call0.v1 (StableHlo.TRef.of (T := ⟨S2048x8, .f32⟩) main_v2056) main_call97.call0.v2 select,
    StableHlo.TRef.unary main_call97.call0.v2 main_call97.v5 Host.expm1,
    StableHlo.TRef.nullary main_call97.cst_2 (constant S_ .f32 0x3F800000#32),
    StableHlo.TRef.unary main_call97.cst_2 main_call97.v6 (broadcastInDim S2048x8 ![] bcast_S_S2048x8),
    StableHlo.TRef.binary main_call97.v6 main_call97.v5 main_call97.v7 mulf,
    StableHlo.TRef.ternary main_call97.v1 (StableHlo.TRef.of (T := ⟨S2048x8, .f32⟩) main_v2056) main_call97.v7 main_call97.call1.v0 select,
    StableHlo.unary main_v74 main_v2058 ((transpose S2048x2048 [1, 0] · transposes_S2048x2048_S2048x2048_1_0) : (⟨S2048x2048, .f32⟩ : BufTy).Contents (Elt F) → (⟨S2048x2048, .f32⟩ : BufTy).Contents (Elt F)),
    StableHlo.binary main_v89 main_v1979 main_v2059 ((fun l r => Host.dotGeneral dot_S2048x256_S256x8_S2048x8_1_0_0_1_n_n none l r) : (⟨S2048x256, .f32⟩ : BufTy).Contents (Elt F) → (⟨S256x8, .f32⟩ : BufTy).Contents (Elt F) → (⟨S2048x8, .f32⟩ : BufTy).Contents (Elt F)),
    StableHlo.binary main_v1767 main_v1979 main_v2060 ((fun l r => Host.dotGeneral dot_S2048x256_S256x8_S2048x8_1_0_0_1_n_n none l r) : (⟨S2048x256, .f32⟩ : BufTy).Contents (Elt F) → (⟨S256x8, .f32⟩ : BufTy).Contents (Elt F) → (⟨S2048x8, .f32⟩ : BufTy).Contents (Elt F)),
    StableHlo.unary main_v1978 main_v2061 ((extractStridedSlice S8x1 ![0, 0] · slices_S16x1_S8x1_0_0) : (⟨S16x1, .f32⟩ : BufTy).Contents (Elt F) → (⟨S8x1, .f32⟩ : BufTy).Contents (Elt F)),
    StableHlo.binary main_v2059 main_v2061 main_v2062 ((fun l r => Host.dotGeneral dot_S2048x8_S8x1_S2048x1_1_0_0_1_n_n none l r) : (⟨S2048x8, .f32⟩ : BufTy).Contents (Elt F) → (⟨S8x1, .f32⟩ : BufTy).Contents (Elt F) → (⟨S2048x1, .f32⟩ : BufTy).Contents (Elt F)),
    StableHlo.unary main_v1978 main_v2063 ((extractStridedSlice S8x1 ![8, 0] · slices_S16x1_S8x1_8_0) : (⟨S16x1, .f32⟩ : BufTy).Contents (Elt F) → (⟨S8x1, .f32⟩ : BufTy).Contents (Elt F)),
    StableHlo.binary main_v2060 main_v2063 main_v2064 ((fun l r => Host.dotGeneral dot_S2048x8_S8x1_S2048x1_1_0_0_1_n_n none l r) : (⟨S2048x8, .f32⟩ : BufTy).Contents (Elt F) → (⟨S8x1, .f32⟩ : BufTy).Contents (Elt F) → (⟨S2048x1, .f32⟩ : BufTy).Contents (Elt F)),
    StableHlo.unary main_v2064 main_v2065 ((transpose S1x2048 [1, 0] · transposes_S2048x1_S1x2048_1_0) : (⟨S2048x1, .f32⟩ : BufTy).Contents (Elt F) → (⟨S1x2048, .f32⟩ : BufTy).Contents (Elt F)),
    StableHlo.unary main_v2062 main_v2066 (broadcastInDim S2048x2048 ![0, 1] bcast_S2048x1_S2048x2048_0_1 : (⟨S2048x1, .f32⟩ : BufTy).Contents (Elt F) → (⟨S2048x2048, .f32⟩ : BufTy).Contents (Elt F)),
    StableHlo.unary main_v2065 main_v2067 (broadcastInDim S2048x2048 ![0, 1] bcast_S1x2048_S2048x2048_0_1 : (⟨S1x2048, .f32⟩ : BufTy).Contents (Elt F) → (⟨S2048x2048, .f32⟩ : BufTy).Contents (Elt F)),
    StableHlo.binary main_v2066 main_v2067 main_v2068 (addf : (⟨S2048x2048, .f32⟩ : BufTy).Contents (Elt F) → (⟨S2048x2048, .f32⟩ : BufTy).Contents (Elt F) → (⟨S2048x2048, .f32⟩ : BufTy).Contents (Elt F)),
    StableHlo.nullary main_cst_435 (constant S_ .f32 0x3E4CCCCD#32),
    StableHlo.TRef.nullary main_call98.cst (constant S_ .f32 0x00000000#32),
    StableHlo.TRef.unary main_call98.cst main_call98.v0 (broadcastInDim S2048x2048 ![] bcast_S_S2048x2048),
    StableHlo.TRef.binary (StableHlo.TRef.of (T := ⟨S2048x2048, .f32⟩) main_v2068) main_call98.v0 main_call98.v1 (cmpf .oge),
    StableHlo.TRef.unary (StableHlo.TRef.of (T := ⟨S_, .f32⟩) main_cst_435) main_call98.v2 id,
    StableHlo.TRef.unary main_call98.v2 main_call98.v3 (broadcastInDim S2048x2048 ![] bcast_S_S2048x2048),
    StableHlo.TRef.binary main_call98.v3 (StableHlo.TRef.of (T := ⟨S2048x2048, .f32⟩) main_v2068) main_call98.v4 mulf,
    StableHlo.TRef.ternary main_call98.v1 (StableHlo.TRef.of (T := ⟨S2048x2048, .f32⟩) main_v2068) main_call98.v4 main_call98.call0.v0 select,
    StableHlo.nullary main_cst_436 (constant S_ .f32 0x7F800000#32),
    StableHlo.binary main_v2015 main_cst_436 main_v2070 ((fun x v => Host.reduce FloatOps.minimumf x v reducesTo_S2048x1_S_d0_1 h_S_) : (⟨S2048x1, .f32⟩ : BufTy).Contents (Elt F) → (⟨S_, .f32⟩ : BufTy).Contents (Elt F) → (⟨S_, .f32⟩ : BufTy).Contents (Elt F)),
    StableHlo.unary main_v2070 main_v2071 (broadcastInDim S2048x1 ![] bcast_S_S2048x1 : (⟨S_, .f32⟩ : BufTy).Contents (Elt F) → (⟨S2048x1, .f32⟩ : BufTy).Contents (Elt F)),
    StableHlo.binary main_v2015 main_v2071 main_v2072 (subf : (⟨S2048x1, .f32⟩ : BufTy).Contents (Elt F) → (⟨S2048x1, .f32⟩ : BufTy).Contents (Elt F) → (⟨S2048x1, .f32⟩ : BufTy).Contents (Elt F)),
    StableHlo.nullary main_cst_437 (constant S_ .f32 0xFF800000#32),
    StableHlo.binary main_v2015 main_cst_437 main_v2073 ((fun x v => Host.reduce FloatOps.maximumf x v reducesTo_S2048x1_S_d0_1 h_S_) : (⟨S2048x1, .f32⟩ : BufTy).Contents (Elt F) → (⟨S_, .f32⟩ : BufTy).Contents (Elt F) → (⟨S_, .f32⟩ : BufTy).Contents (Elt F)),
    StableHlo.nullary main_cst_438 (constant S_ .f32 0x7F800000#32),
    StableHlo.binary main_v2015 main_cst_438 main_v2074 ((fun x v => Host.reduce FloatOps.minimumf x v reducesTo_S2048x1_S_d0_1 h_S_) : (⟨S2048x1, .f32⟩ : BufTy).Contents (Elt F) → (⟨S_, .f32⟩ : BufTy).Contents (Elt F) → (⟨S_, .f32⟩ : BufTy).Contents (Elt F)),
    StableHlo.binary main_v2073 main_v2074 main_v2075 (subf : (⟨S_, .f32⟩ : BufTy).Contents (Elt F) → (⟨S_, .f32⟩ : BufTy).Contents (Elt F) → (⟨S_, .f32⟩ : BufTy).Contents (Elt F)),
    StableHlo.unary main_v2075 main_v2076 (broadcastInDim S2048x1 ![] bcast_S_S2048x1 : (⟨S_, .f32⟩ : BufTy).Contents (Elt F) → (⟨S2048x1, .f32⟩ : BufTy).Contents (Elt F)),
    StableHlo.binary main_v2072 main_v2076 main_v2077 (Host.divf : (⟨S2048x1, .f32⟩ : BufTy).Contents (Elt F) → (⟨S2048x1, .f32⟩ : BufTy).Contents (Elt F) → (⟨S2048x1, .f32⟩ : BufTy).Contents (Elt F)),
    StableHlo.nullary main_cst_439 (constant S_ .f32 0xFF800000#32) ]

set_option maxRecDepth 16384 in
set_option maxHeartbeats 4000000 in
/-- The window is that line: the called functions unfold at their calls and sequencing re-associates. -/
theorem main_part41_eq (c : Dev nD) : main_part41 (F := F) c = StableHlo.seq ops_part41 := rfl

set_option maxRecDepth 16384 in
set_option maxHeartbeats 4000000 in
/-- Every operation of the window is good; the result's index is compared by computation. -/
theorem ops_part41_good : (ops_part41 : List (HloOp τ sig (Elt F))).Forall (Good 12) :=
  ⟨nullary_good (h := by decide) .., binary_good (h := by decide) .., nullary_good (h := by decide) .., binary_good (h := by decide) ..,
    binary_good (h := by decide) .., unary_good (h := by decide) .., binary_good (h := by decide) .., nullary_good (h := by decide) ..,
    binary_good (h := by decide) .., unary_good (h := by decide) .., binary_good (h := by decide) .., nullary_good (h := by decide) ..,
    unary_good (h := by decide) .., binary_good (h := by decide) .., unary_good (h := by decide) .., binary_good (h := by decide) ..,
    nullary_good (h := by decide) .., unary_good (h := by decide) .., unary_good (h := by decide) .., ternary_good (h := by decide) ..,
    nullary_good (h := by decide) .., binary_good (h := by decide) .., nullary_good (h := by decide) .., unary_good (h := by decide) ..,
    binary_good (h := by decide) .., unary_good (h := by decide) .., unary_good (h := by decide) .., binary_good (h := by decide) ..,
    unary_good (h := by decide) .., nullary_good (h := by decide) .., binary_good (h := by decide) .., unary_good (h := by decide) ..,
    unary_good (h := by decide) .., binary_good (h := by decide) .., unary_good (h := by decide) .., binary_good (h := by decide) ..,
    nullary_good (h := by decide) .., unary_good (h := by decide) .., binary_good (h := by decide) .., nullary_good (h := by decide) ..,
    unary_good (h := by decide) .., binary_good (h := by decide) .., nullary_good (h := by decide) .., unary_good (h := by decide) ..,
    unary_good (h := by decide) .., ternary_good (h := by decide) .., unary_good (h := by decide) .., nullary_good (h := by decide) ..,
    unary_good (h := by decide) .., binary_good (h := by decide) .., ternary_good (h := by decide) .., unary_good (h := by decide) ..,
    binary_good (h := by decide) .., binary_good (h := by decide) .., unary_good (h := by decide) .., binary_good (h := by decide) ..,
    unary_good (h := by decide) .., binary_good (h := by decide) .., unary_good (h := by decide) .., unary_good (h := by decide) ..,
    unary_good (h := by decide) .., binary_good (h := by decide) .., nullary_good (h := by decide) .., nullary_good (h := by decide) ..,
    unary_good (h := by decide) .., binary_good (h := by decide) .., unary_good (h := by decide) .., unary_good (h := by decide) ..,
    binary_good (h := by decide) .., ternary_good (h := by decide) .., nullary_good (h := by decide) .., binary_good (h := by decide) ..,
    unary_good (h := by decide) .., binary_good (h := by decide) .., nullary_good (h := by decide) .., binary_good (h := by decide) ..,
    nullary_good (h := by decide) .., binary_good (h := by decide) .., binary_good (h := by decide) .., unary_good (h := by decide) ..,
    binary_good (h := by decide) .., nullary_good (h := by decide) ..⟩

end Cert.ReferenceIdeal.Hand

end
-- ==== Proof.Ref.W42.lean ====
import proofs.«146970_j35948876268088_1_alg».proof.ReferenceIdeal.P07
import proofs.«146970_j35948876268088_1_alg».proof.Proof.Ref.Keep

noncomputable section

namespace Cert.ReferenceIdeal.Hand

open Cert.ReferenceIdeal Idealize.ShloMosaic Idealize.ShloMosaic.TcCoe Idealize.SL.Sem Idealize.ShloMosaic.StableHlo

variable {F : FTy → Type} [FloatOps F]

variable [Facts]
open Facts₀ Facts

set_option maxHeartbeats 4000000 in
/-- The operations of window 42, in order; a called function's operations stand in its call's place. -/
abbrev ops_part42 : List (HloOp τ sig (Elt F)) :=
  [ StableHlo.binary main_v2069 main_cst_439 main_v2078 ((fun x v => Host.reduce FloatOps.maximumf x v reducesTo_S2048x2048_S_d0_1 h_S_) : (⟨S2048x2048, .f32⟩ : BufTy).Contents (Elt F) → (⟨S_, .f32⟩ : BufTy).Contents (Elt F) → (⟨S_, .f32⟩ : BufTy).Contents (Elt F)),
    StableHlo.unary main_v2078 main_v2079 (broadcastInDim S2048x1 ![] bcast_S_S2048x1 : (⟨S_, .f32⟩ : BufTy).Contents (Elt F) → (⟨S2048x1, .f32⟩ : BufTy).Contents (Elt F)),
    StableHlo.binary main_v2077 main_v2079 main_v2080 (mulf : (⟨S2048x1, .f32⟩ : BufTy).Contents (Elt F) → (⟨S2048x1, .f32⟩ : BufTy).Contents (Elt F) → (⟨S2048x1, .f32⟩ : BufTy).Contents (Elt F)),
    StableHlo.nullary main_cst_440 (constant S_ .f32 0x00000000#32),
    StableHlo.unary main_cst_440 main_v2081 (broadcastInDim S2048x2048 ![] bcast_S_S2048x2048 : (⟨S_, .f32⟩ : BufTy).Contents (Elt F) → (⟨S2048x2048, .f32⟩ : BufTy).Contents (Elt F)),
    StableHlo.binary main_v2058 main_v2081 main_v2082 (cmpf .ogt : (⟨S2048x2048, .f32⟩ : BufTy).Contents (Elt F) → (⟨S2048x2048, .f32⟩ : BufTy).Contents (Elt F) → (⟨S2048x2048, .i1⟩ : BufTy).Contents (Elt F)),
    StableHlo.unary main_v2080 main_v2083 (broadcastInDim S2048x2048 ![0, 1] bcast_S2048x1_S2048x2048_0_1 : (⟨S2048x1, .f32⟩ : BufTy).Contents (Elt F) → (⟨S2048x2048, .f32⟩ : BufTy).Contents (Elt F)),
    StableHlo.binary main_v2069 main_v2083 main_v2084 (addf : (⟨S2048x2048, .f32⟩ : BufTy).Contents (Elt F) → (⟨S2048x2048, .f32⟩ : BufTy).Contents (Elt F) → (⟨S2048x2048, .f32⟩ : BufTy).Contents (Elt F)),
    StableHlo.nullary main_cst_441 (constant S_ .f32 0xD368D4A5#32),
    StableHlo.TRef.unary (StableHlo.TRef.of (T := ⟨S_, .f32⟩) main_cst_441) main_call99.v0 id,
    StableHlo.TRef.unary main_call99.v0 main_call99.v1 (broadcastInDim S2048x2048 ![] bcast_S_S2048x2048),
    StableHlo.TRef.ternary (StableHlo.TRef.of (T := ⟨S2048x2048, .i1⟩) main_v2082) (StableHlo.TRef.of (T := ⟨S2048x2048, .f32⟩) main_v2084) main_call99.v1 main_call99.v2 select,
    StableHlo.nullary main_cst_442 (constant S_ .f32 0xFF800000#32),
    StableHlo.binary main_v2085 main_cst_442 main_v2086 ((fun x v => Host.reduce FloatOps.maximumf x v reducesTo_S2048x2048_S2048_d1 h_S_) : (⟨S2048x2048, .f32⟩ : BufTy).Contents (Elt F) → (⟨S_, .f32⟩ : BufTy).Contents (Elt F) → (⟨S2048, .f32⟩ : BufTy).Contents (Elt F)),
    StableHlo.nullary main_cst_443 (constant S_ .f32 0xFF800000#32),
    StableHlo.unary main_cst_443 main_v2087 (broadcastInDim S2048 ![] bcast_S_S2048 : (⟨S_, .f32⟩ : BufTy).Contents (Elt F) → (⟨S2048, .f32⟩ : BufTy).Contents (Elt F)),
    StableHlo.binary main_v2087 main_v2086 main_v2088 (maximumf : (⟨S2048, .f32⟩ : BufTy).Contents (Elt F) → (⟨S2048, .f32⟩ : BufTy).Contents (Elt F) → (⟨S2048, .f32⟩ : BufTy).Contents (Elt F)),
    StableHlo.unary main_v2088 main_v2089 (broadcastInDim S2048x1 ![0] bcast_S2048_S2048x1_0 : (⟨S2048, .f32⟩ : BufTy).Contents (Elt F) → (⟨S2048x1, .f32⟩ : BufTy).Contents (Elt F)),
    StableHlo.unary main_v2089 main_v2090 (broadcastInDim S2048x2048 ![0, 1] bcast_S2048x1_S2048x2048_0_1 : (⟨S2048x1, .f32⟩ : BufTy).Contents (Elt F) → (⟨S2048x2048, .f32⟩ : BufTy).Contents (Elt F)),
    StableHlo.binary main_v2085 main_v2090 main_v2091 (subf : (⟨S2048x2048, .f32⟩ : BufTy).Contents (Elt F) → (⟨S2048x2048, .f32⟩ : BufTy).Contents (Elt F) → (⟨S2048x2048, .f32⟩ : BufTy).Contents (Elt F)),
    StableHlo.unary main_v2091 main_v2092 (Host.exp : (⟨S2048x2048, .f32⟩ : BufTy).Contents (Elt F) → (⟨S2048x2048, .f32⟩ : BufTy).Contents (Elt F)),
    StableHlo.nullary main_cst_444 (constant S_ .f32 0x00000000#32),
    StableHlo.binary main_v2092 main_cst_444 main_v2093 ((fun x v => Host.reduceAdd x v reducesTo_S2048x2048_S2048_d1 h_S_) : (⟨S2048x2048, .f32⟩ : BufTy).Contents (Elt F) → (⟨S_, .f32⟩ : BufTy).Contents (Elt F) → (⟨S2048, .f32⟩ : BufTy).Contents (Elt F)),
    StableHlo.unary main_v2093 main_v2094 (broadcastInDim S2048x1 ![0] bcast_S2048_S2048x1_0 : (⟨S2048, .f32⟩ : BufTy).Contents (Elt F) → (⟨S2048x1, .f32⟩ : BufTy).Contents (Elt F)),
    StableHlo.unary main_v2094 main_v2095 (broadcastInDim S2048x2048 ![0, 1] bcast_S2048x1_S2048x2048_0_1 : (⟨S2048x1, .f32⟩ : BufTy).Contents (Elt F) → (⟨S2048x2048, .f32⟩ : BufTy).Contents (Elt F)),
    StableHlo.binary main_v2092 main_v2095 main_v2096 (Host.divf : (⟨S2048x2048, .f32⟩ : BufTy).Contents (Elt F) → (⟨S2048x2048, .f32⟩ : BufTy).Contents (Elt F) → (⟨S2048x2048, .f32⟩ : BufTy).Contents (Elt F)),
    StableHlo.unary main_v2096 main_v2097 ((transpose S2048x2048 [1, 0] · transposes_S2048x2048_S2048x2048_1_0) : (⟨S2048x2048, .f32⟩ : BufTy).Contents (Elt F) → (⟨S2048x2048, .f32⟩ : BufTy).Contents (Elt F)),
    StableHlo.binary main_v2097 main_v2057 main_v2098 ((fun l r => Host.dotGeneral dot_S2048x2048_S2048x8_S2048x8_1_0_0_1_n_n none l r) : (⟨S2048x2048, .f32⟩ : BufTy).Contents (Elt F) → (⟨S2048x8, .f32⟩ : BufTy).Contents (Elt F) → (⟨S2048x8, .f32⟩ : BufTy).Contents (Elt F)),
    StableHlo.TRef.nullary main_call100.cst (constant S_ .f32 0x00000000#32),
    StableHlo.TRef.unary main_call100.cst main_call100.v0 (broadcastInDim S2048x8 ![] bcast_S_S2048x8),
    StableHlo.TRef.binary (StableHlo.TRef.of (T := ⟨S2048x8, .f32⟩) main_v2098) main_call100.v0 main_call100.v1 (cmpf .ogt),
    StableHlo.TRef.nullary main_call100.cst_0 (constant S_ .f32 0x00000000#32),
    StableHlo.TRef.unary main_call100.cst_0 main_call100.v2 (broadcastInDim S2048x8 ![] bcast_S_S2048x8),
    StableHlo.TRef.binary (StableHlo.TRef.of (T := ⟨S2048x8, .f32⟩) main_v2098) main_call100.v2 main_call100.v3 (cmpf .ogt),
    StableHlo.TRef.nullary main_call100.cst_1 (constant S_ .f32 0x00000000#32),
    StableHlo.TRef.unary main_call100.cst_1 main_call100.call0.v0 id,
    StableHlo.TRef.unary main_call100.call0.v0 main_call100.call0.v1 (broadcastInDim S2048x8 ![] bcast_S_S2048x8),
    StableHlo.TRef.ternary main_call100.v3 main_call100.call0.v1 (StableHlo.TRef.of (T := ⟨S2048x8, .f32⟩) main_v2098) main_call100.call0.v2 select,
    StableHlo.TRef.unary main_call100.call0.v2 main_call100.v5 Host.expm1,
    StableHlo.TRef.nullary main_call100.cst_2 (constant S_ .f32 0x3F800000#32),
    StableHlo.TRef.unary main_call100.cst_2 main_call100.v6 (broadcastInDim S2048x8 ![] bcast_S_S2048x8),
    StableHlo.TRef.binary main_call100.v6 main_call100.v5 main_call100.v7 mulf,
    StableHlo.TRef.ternary main_call100.v1 (StableHlo.TRef.of (T := ⟨S2048x8, .f32⟩) main_v2098) main_call100.v7 main_call100.call1.v0 select,
    StableHlo.unary main_arg10 main_v2100 ((extractStridedSlice S1x16x16 ![0, 0, 0] · slices_S3x16x16_S1x16x16_0_0_0) : (⟨S3x16x16, .f32⟩ : BufTy).Contents (Elt F) → (⟨S1x16x16, .f32⟩ : BufTy).Contents (Elt F)),
    StableHlo.reshape main_v2100 main_v2101 rfl shapeCasts_S1x16x16_S16x16,
    StableHlo.binary main_v2101 main_v1976 main_v2102 ((fun l r => Host.dotGeneral dot_S16x16_S16x2_S16x2_1_0_0_1_n_n none l r) : (⟨S16x16, .f32⟩ : BufTy).Contents (Elt F) → (⟨S16x2, .f32⟩ : BufTy).Contents (Elt F) → (⟨S16x2, .f32⟩ : BufTy).Contents (Elt F)),
    StableHlo.unary main_arg11 main_v2103 ((extractStridedSlice S1x16x16 ![0, 0, 0] · slices_S3x16x16_S1x16x16_0_0_0) : (⟨S3x16x16, .f32⟩ : BufTy).Contents (Elt F) → (⟨S1x16x16, .f32⟩ : BufTy).Contents (Elt F)),
    StableHlo.reshape main_v2103 main_v2104 rfl shapeCasts_S1x16x16_S16x16,
    StableHlo.binary main_v2104 main_v1976 main_v2105 ((fun l r => Host.dotGeneral dot_S16x16_S16x2_S16x2_1_0_0_1_n_n none l r) : (⟨S16x16, .f32⟩ : BufTy).Contents (Elt F) → (⟨S16x2, .f32⟩ : BufTy).Contents (Elt F) → (⟨S16x2, .f32⟩ : BufTy).Contents (Elt F)),
    StableHlo.binary main_v2102 main_v2105 main_v2106 (addf : (⟨S16x2, .f32⟩ : BufTy).Contents (Elt F) → (⟨S16x2, .f32⟩ : BufTy).Contents (Elt F) → (⟨S16x2, .f32⟩ : BufTy).Contents (Elt F)),
    StableHlo.unary main_v2106 main_v2107 (Host.negf : (⟨S16x2, .f32⟩ : BufTy).Contents (Elt F) → (⟨S16x2, .f32⟩ : BufTy).Contents (Elt F)),
    StableHlo.unary main_v2107 main_v2108 (Host.exp : (⟨S16x2, .f32⟩ : BufTy).Contents (Elt F) → (⟨S16x2, .f32⟩ : BufTy).Contents (Elt F)),
    StableHlo.nullary main_cst_445 (constant S_ .f32 0x3F800000#32),
    StableHlo.unary main_cst_445 main_v2109 (broadcastInDim S16x2 ![] bcast_S_S16x2 : (⟨S_, .f32⟩ : BufTy).Contents (Elt F) → (⟨S16x2, .f32⟩ : BufTy).Contents (Elt F)),
    StableHlo.binary main_v2109 main_v2108 main_v2110 (addf : (⟨S16x2, .f32⟩ : BufTy).Contents (Elt F) → (⟨S16x2, .f32⟩ : BufTy).Contents (Elt F) → (⟨S16x2, .f32⟩ : BufTy).Contents (Elt F)),
    StableHlo.nullary main_cst_446 (constant S_ .f32 0x3F800000#32),
    StableHlo.unary main_cst_446 main_v2111 (broadcastInDim S16x2 ![] bcast_S_S16x2 : (⟨S_, .f32⟩ : BufTy).Contents (Elt F) → (⟨S16x2, .f32⟩ : BufTy).Contents (Elt F)),
    StableHlo.binary main_v2111 main_v2110 main_v2112 (Host.divf : (⟨S16x2, .f32⟩ : BufTy).Contents (Elt F) → (⟨S16x2, .f32⟩ : BufTy).Contents (Elt F) → (⟨S16x2, .f32⟩ : BufTy).Contents (Elt F)),
    StableHlo.unary main_arg10 main_v2113 ((extractStridedSlice S1x16x16 ![1, 0, 0] · slices_S3x16x16_S1x16x16_1_0_0) : (⟨S3x16x16, .f32⟩ : BufTy).Contents (Elt F) → (⟨S1x16x16, .f32⟩ : BufTy).Contents (Elt F)),
    StableHlo.reshape main_v2113 main_v2114 rfl shapeCasts_S1x16x16_S16x16,
    StableHlo.binary main_v2114 main_v1976 main_v2115 ((fun l r => Host.dotGeneral dot_S16x16_S16x2_S16x2_1_0_0_1_n_n none l r) : (⟨S16x16, .f32⟩ : BufTy).Contents (Elt F) → (⟨S16x2, .f32⟩ : BufTy).Contents (Elt F) → (⟨S16x2, .f32⟩ : BufTy).Contents (Elt F)),
    StableHlo.unary main_arg11 main_v2116 ((extractStridedSlice S1x16x16 ![1, 0, 0] · slices_S3x16x16_S1x16x16_1_0_0) : (⟨S3x16x16, .f32⟩ : BufTy).Contents (Elt F) → (⟨S1x16x16, .f32⟩ : BufTy).Contents (Elt F)),
    StableHlo.reshape main_v2116 main_v2117 rfl shapeCasts_S1x16x16_S16x16,
    StableHlo.binary main_v2117 main_v1976 main_v2118 ((fun l r => Host.dotGeneral dot_S16x16_S16x2_S16x2_1_0_0_1_n_n none l r) : (⟨S16x16, .f32⟩ : BufTy).Contents (Elt F) → (⟨S16x2, .f32⟩ : BufTy).Contents (Elt F) → (⟨S16x2, .f32⟩ : BufTy).Contents (Elt F)),
    StableHlo.binary main_v2115 main_v2118 main_v2119 (addf : (⟨S16x2, .f32⟩ : BufTy).Contents (Elt F) → (⟨S16x2, .f32⟩ : BufTy).Contents (Elt F) → (⟨S16x2, .f32⟩ : BufTy).Contents (Elt F)),
    StableHlo.unary main_v2119 main_v2120 (Host.negf : (⟨S16x2, .f32⟩ : BufTy).Contents (Elt F) → (⟨S16x2, .f32⟩ : BufTy).Contents (Elt F)),
    StableHlo.unary main_v2120 main_v2121 (Host.exp : (⟨S16x2, .f32⟩ : BufTy).Contents (Elt F) → (⟨S16x2, .f32⟩ : BufTy).Contents (Elt F)),
    StableHlo.nullary main_cst_447 (constant S_ .f32 0x3F800000#32),
    StableHlo.unary main_cst_447 main_v2122 (broadcastInDim S16x2 ![] bcast_S_S16x2 : (⟨S_, .f32⟩ : BufTy).Contents (Elt F) → (⟨S16x2, .f32⟩ : BufTy).Contents (Elt F)),
    StableHlo.binary main_v2122 main_v2121 main_v2123 (addf : (⟨S16x2, .f32⟩ : BufTy).Contents (Elt F) → (⟨S16x2, .f32⟩ : BufTy).Contents (Elt F) → (⟨S16x2, .f32⟩ : BufTy).Contents (Elt F)),
    StableHlo.nullary main_cst_448 (constant S_ .f32 0x3F800000#32),
    StableHlo.unary main_cst_448 main_v2124 (broadcastInDim S16x2 ![] bcast_S_S16x2 : (⟨S_, .f32⟩ : BufTy).Contents (Elt F) → (⟨S16x2, .f32⟩ : BufTy).Contents (Elt F)),
    StableHlo.binary main_v2124 main_v2123 main_v2125 (Host.divf : (⟨S16x2, .f32⟩ : BufTy).Contents (Elt F) → (⟨S16x2, .f32⟩ : BufTy).Contents (Elt F) → (⟨S16x2, .f32⟩ : BufTy).Contents (Elt F)),
    StableHlo.unary main_arg10 main_v2126 ((extractStridedSlice S1x16x16 ![2, 0, 0] · slices_S3x16x16_S1x16x16_2_0_0) : (⟨S3x16x16, .f32⟩ : BufTy).Contents (Elt F) → (⟨S1x16x16, .f32⟩ : BufTy).Contents (Elt F)),
    StableHlo.reshape main_v2126 main_v2127 rfl shapeCasts_S1x16x16_S16x16,
    StableHlo.binary main_v2127 main_v1976 main_v2128 ((fun l r => Host.dotGeneral dot_S16x16_S16x2_S16x2_1_0_0_1_n_n none l r) : (⟨S16x16, .f32⟩ : BufTy).Contents (Elt F) → (⟨S16x2, .f32⟩ : BufTy).Contents (Elt F) → (⟨S16x2, .f32⟩ : BufTy).Contents (Elt F)) ]

set_option maxRecDepth 16384 in
set_option maxHeartbeats 4000000 in
/-- The window is that line: the called functions unfold at their calls and sequencing re-associates. -/
theorem main_part42_eq (c : Dev nD) : main_part42 (F := F) c = StableHlo.seq ops_part42 := rfl

set_option maxRecDepth 16384 in
set_option maxHeartbeats 4000000 in
/-- Every operation of the window is good; the result's index is compared by computation. -/
theorem ops_part42_good : (ops_part42 : List (HloOp τ sig (Elt F))).Forall (Good 12) :=
  ⟨binary_good (h := by decide) .., unary_good (h := by decide) .., binary_good (h := by decide) .., nullary_good (h := by decide) ..,
    unary_good (h := by decide) .., binary_good (h := by decide) .., unary_good (h := by decide) .., binary_good (h := by decide) ..,
    nullary_good (h := by decide) .., unary_good (h := by decide) .., unary_good (h := by decide) .., ternary_good (h := by decide) ..,
    nullary_good (h := by decide) .., binary_good (h := by decide) .., nullary_good (h := by decide) .., unary_good (h := by decide) ..,
    binary_good (h := by decide) .., unary_good (h := by decide) .., unary_good (h := by decide) .., binary_good (h := by decide) ..,
    unary_good (h := by decide) .., nullary_good (h := by decide) .., binary_good (h := by decide) .., unary_good (h := by decide) ..,
    unary_good (h := by decide) .., binary_good (h := by decide) .., unary_good (h := by decide) .., binary_good (h := by decide) ..,
    nullary_good (h := by decide) .., unary_good (h := by decide) .., binary_good (h := by decide) .., nullary_good (h := by decide) ..,
    unary_good (h := by decide) .., binary_good (h := by decide) .., nullary_good (h := by decide) .., unary_good (h := by decide) ..,
    unary_good (h := by decide) .., ternary_good (h := by decide) .., unary_good (h := by decide) .., nullary_good (h := by decide) ..,
    unary_good (h := by decide) .., binary_good (h := by decide) .., ternary_good (h := by decide) .., unary_good (h := by decide) ..,
    reshape_good (h := by decide) .., binary_good (h := by decide) .., unary_good (h := by decide) .., reshape_good (h := by decide) ..,
    binary_good (h := by decide) .., binary_good (h := by decide) .., unary_good (h := by decide) .., unary_good (h := by decide) ..,
    nullary_good (h := by decide) .., unary_good (h := by decide) .., binary_good (h := by decide) .., nullary_good (h := by decide) ..,
    unary_good (h := by decide) .., binary_good (h := by decide) .., unary_good (h := by decide) .., reshape_good (h := by decide) ..,
    binary_good (h := by decide) .., unary_good (h := by decide) .., reshape_good (h := by decide) .., binary_good (h := by decide) ..,
    binary_good (h := by decide) .., unary_good (h := by decide) .., unary_good (h := by decide) .., nullary_good (h := by decide) ..,
    unary_good (h := by decide) .., binary_good (h := by decide) .., nullary_good (h := by decide) .., unary_good (h := by decide) ..,
    binary_good (h := by decide) .., unary_good (h := by decide) .., reshape_good (h := by decide) .., binary_good (h := by decide) ..⟩

end Cert.ReferenceIdeal.Hand

end
-- ==== Proof.Ref.W43.lean ====
import proofs.«146970_j35948876268088_1_alg».proof.ReferenceIdeal.P07
import proofs.«146970_j35948876268088_1_alg».proof.Proof.Ref.Keep

noncomputable section

namespace Cert.ReferenceIdeal.Hand

open Cert.ReferenceIdeal Idealize.ShloMosaic Idealize.ShloMosaic.TcCoe Idealize.SL.Sem Idealize.ShloMosaic.StableHlo

variable {F : FTy → Type} [FloatOps F]

variable [Facts]
open Facts₀ Facts

set_option maxHeartbeats 4000000 in
/-- The operations of window 43, in order; a called function's operations stand in its call's place. -/
abbrev ops_part43 : List (HloOp τ sig (Elt F)) :=
  [ StableHlo.unary main_arg11 main_v2129 ((extractStridedSlice S1x16x16 ![2, 0, 0] · slices_S3x16x16_S1x16x16_2_0_0) : (⟨S3x16x16, .f32⟩ : BufTy).Contents (Elt F) → (⟨S1x16x16, .f32⟩ : BufTy).Contents (Elt F)),
    StableHlo.reshape main_v2129 main_v2130 rfl shapeCasts_S1x16x16_S16x16,
    StableHlo.binary main_v2125 main_v1976 main_v2131 (mulf : (⟨S16x2, .f32⟩ : BufTy).Contents (Elt F) → (⟨S16x2, .f32⟩ : BufTy).Contents (Elt F) → (⟨S16x2, .f32⟩ : BufTy).Contents (Elt F)),
    StableHlo.binary main_v2130 main_v2131 main_v2132 ((fun l r => Host.dotGeneral dot_S16x16_S16x2_S16x2_1_0_0_1_n_n none l r) : (⟨S16x16, .f32⟩ : BufTy).Contents (Elt F) → (⟨S16x2, .f32⟩ : BufTy).Contents (Elt F) → (⟨S16x2, .f32⟩ : BufTy).Contents (Elt F)),
    StableHlo.binary main_v2128 main_v2132 main_v2133 (addf : (⟨S16x2, .f32⟩ : BufTy).Contents (Elt F) → (⟨S16x2, .f32⟩ : BufTy).Contents (Elt F) → (⟨S16x2, .f32⟩ : BufTy).Contents (Elt F)),
    StableHlo.unary main_v2133 main_v2134 (Host.tanh : (⟨S16x2, .f32⟩ : BufTy).Contents (Elt F) → (⟨S16x2, .f32⟩ : BufTy).Contents (Elt F)),
    StableHlo.nullary main_cst_449 (constant S_ .f32 0x3F800000#32),
    StableHlo.unary main_cst_449 main_v2135 (broadcastInDim S16x2 ![] bcast_S_S16x2 : (⟨S_, .f32⟩ : BufTy).Contents (Elt F) → (⟨S16x2, .f32⟩ : BufTy).Contents (Elt F)),
    StableHlo.binary main_v2135 main_v2112 main_v2136 (subf : (⟨S16x2, .f32⟩ : BufTy).Contents (Elt F) → (⟨S16x2, .f32⟩ : BufTy).Contents (Elt F) → (⟨S16x2, .f32⟩ : BufTy).Contents (Elt F)),
    StableHlo.binary main_v2136 main_v1976 main_v2137 (mulf : (⟨S16x2, .f32⟩ : BufTy).Contents (Elt F) → (⟨S16x2, .f32⟩ : BufTy).Contents (Elt F) → (⟨S16x2, .f32⟩ : BufTy).Contents (Elt F)),
    StableHlo.binary main_v2112 main_v2134 main_v2138 (mulf : (⟨S16x2, .f32⟩ : BufTy).Contents (Elt F) → (⟨S16x2, .f32⟩ : BufTy).Contents (Elt F) → (⟨S16x2, .f32⟩ : BufTy).Contents (Elt F)),
    StableHlo.binary main_v2137 main_v2138 main_v2139 (addf : (⟨S16x2, .f32⟩ : BufTy).Contents (Elt F) → (⟨S16x2, .f32⟩ : BufTy).Contents (Elt F) → (⟨S16x2, .f32⟩ : BufTy).Contents (Elt F)),
    StableHlo.unary main_v2139 main_v2140 ((extractStridedSlice S16x1 ![0, 0] · slices_S16x2_S16x1_0_0) : (⟨S16x2, .f32⟩ : BufTy).Contents (Elt F) → (⟨S16x1, .f32⟩ : BufTy).Contents (Elt F)),
    StableHlo.unary main_v2139 main_v2141 ((extractStridedSlice S16x1 ![0, 1] · slices_S16x2_S16x1_0_1) : (⟨S16x2, .f32⟩ : BufTy).Contents (Elt F) → (⟨S16x1, .f32⟩ : BufTy).Contents (Elt F)),
    StableHlo.reshape main_arg8 main_v2142 rfl shapeCasts_S1x256x8_S256x8,
    StableHlo.binary main_v1773 main_v1773 main_v2143 (mulf : (⟨S2048x256, .f32⟩ : BufTy).Contents (Elt F) → (⟨S2048x256, .f32⟩ : BufTy).Contents (Elt F) → (⟨S2048x256, .f32⟩ : BufTy).Contents (Elt F)),
    StableHlo.nullary main_cst_450 (constant S_ .f32 0x00000000#32),
    StableHlo.binary main_v2143 main_cst_450 main_v2144 ((fun x v => Host.reduceAdd x v reducesTo_S2048x256_S2048_d1 h_S_) : (⟨S2048x256, .f32⟩ : BufTy).Contents (Elt F) → (⟨S_, .f32⟩ : BufTy).Contents (Elt F) → (⟨S2048, .f32⟩ : BufTy).Contents (Elt F)),
    StableHlo.unary main_v2144 main_v2145 (Host.sqrt : (⟨S2048, .f32⟩ : BufTy).Contents (Elt F) → (⟨S2048, .f32⟩ : BufTy).Contents (Elt F)),
    StableHlo.unary main_v1773 main_v2146 ((transpose S256x2048 [1, 0] · transposes_S2048x256_S256x2048_1_0) : (⟨S2048x256, .f32⟩ : BufTy).Contents (Elt F) → (⟨S256x2048, .f32⟩ : BufTy).Contents (Elt F)),
    StableHlo.binary main_v1773 main_v2146 main_v2147 ((fun l r => Host.dotGeneral dot_S2048x256_S256x2048_S2048x2048_1_0_0_1_n_n none l r) : (⟨S2048x256, .f32⟩ : BufTy).Contents (Elt F) → (⟨S256x2048, .f32⟩ : BufTy).Contents (Elt F) → (⟨S2048x2048, .f32⟩ : BufTy).Contents (Elt F)),
    StableHlo.unary main_v2145 main_v2148 (broadcastInDim S2048x1 ![0] bcast_S2048_S2048x1_0 : (⟨S2048, .f32⟩ : BufTy).Contents (Elt F) → (⟨S2048x1, .f32⟩ : BufTy).Contents (Elt F)),
    StableHlo.unary main_v2145 main_v2149 (broadcastInDim S1x2048 ![1] bcast_S2048_S1x2048_1 : (⟨S2048, .f32⟩ : BufTy).Contents (Elt F) → (⟨S1x2048, .f32⟩ : BufTy).Contents (Elt F)),
    StableHlo.unary main_v2148 main_v2150 (broadcastInDim S2048x2048 ![0, 1] bcast_S2048x1_S2048x2048_0_1 : (⟨S2048x1, .f32⟩ : BufTy).Contents (Elt F) → (⟨S2048x2048, .f32⟩ : BufTy).Contents (Elt F)),
    StableHlo.unary main_v2149 main_v2151 (broadcastInDim S2048x2048 ![0, 1] bcast_S1x2048_S2048x2048_0_1 : (⟨S1x2048, .f32⟩ : BufTy).Contents (Elt F) → (⟨S2048x2048, .f32⟩ : BufTy).Contents (Elt F)),
    StableHlo.binary main_v2150 main_v2151 main_v2152 (mulf : (⟨S2048x2048, .f32⟩ : BufTy).Contents (Elt F) → (⟨S2048x2048, .f32⟩ : BufTy).Contents (Elt F) → (⟨S2048x2048, .f32⟩ : BufTy).Contents (Elt F)),
    StableHlo.binary main_v2147 main_v2152 main_v2153 (Host.divf : (⟨S2048x2048, .f32⟩ : BufTy).Contents (Elt F) → (⟨S2048x2048, .f32⟩ : BufTy).Contents (Elt F) → (⟨S2048x2048, .f32⟩ : BufTy).Contents (Elt F)),
    StableHlo.nullary main_v2154 (iotaInDim S2048x2048 32 0),
    StableHlo.nullary main_v2155 (iotaInDim S2048x2048 32 1),
    StableHlo.nullary main_c_451 (constantI S_ 32 0#32),
    StableHlo.unary main_c_451 main_v2156 (broadcastInDim S2048x2048 ![] bcast_S_S2048x2048 : (⟨S_, .i32⟩ : BufTy).Contents (Elt F) → (⟨S2048x2048, .i32⟩ : BufTy).Contents (Elt F)),
    StableHlo.binary main_v2154 main_v2156 main_v2157 (addi : (⟨S2048x2048, .i32⟩ : BufTy).Contents (Elt F) → (⟨S2048x2048, .i32⟩ : BufTy).Contents (Elt F) → (⟨S2048x2048, .i32⟩ : BufTy).Contents (Elt F)),
    StableHlo.binary main_v2157 main_v2155 main_v2158 (cmpi .eq : (⟨S2048x2048, .i32⟩ : BufTy).Contents (Elt F) → (⟨S2048x2048, .i32⟩ : BufTy).Contents (Elt F) → (⟨S2048x2048, .i1⟩ : BufTy).Contents (Elt F)),
    StableHlo.unary main_v2158 main_v2159 (uitofp .f32 : (⟨S2048x2048, .i1⟩ : BufTy).Contents (Elt F) → (⟨S2048x2048, .f32⟩ : BufTy).Contents (Elt F)),
    StableHlo.nullary main_cst_452 (constant S_ .f32 0x3F800000#32),
    StableHlo.unary main_cst_452 main_v2160 (broadcastInDim S2048x2048 ![] bcast_S_S2048x2048 : (⟨S_, .f32⟩ : BufTy).Contents (Elt F) → (⟨S2048x2048, .f32⟩ : BufTy).Contents (Elt F)),
    StableHlo.binary main_v2160 main_v2159 main_v2161 (subf : (⟨S2048x2048, .f32⟩ : BufTy).Contents (Elt F) → (⟨S2048x2048, .f32⟩ : BufTy).Contents (Elt F) → (⟨S2048x2048, .f32⟩ : BufTy).Contents (Elt F)),
    StableHlo.nullary main_cst_453 (constant S_ .f32 0x3F000000#32),
    StableHlo.unary main_cst_453 main_v2162 (broadcastInDim S2048x2048 ![] bcast_S_S2048x2048 : (⟨S_, .f32⟩ : BufTy).Contents (Elt F) → (⟨S2048x2048, .f32⟩ : BufTy).Contents (Elt F)),
    StableHlo.binary main_v2153 main_v2162 main_v2163 (cmpf .ogt : (⟨S2048x2048, .f32⟩ : BufTy).Contents (Elt F) → (⟨S2048x2048, .f32⟩ : BufTy).Contents (Elt F) → (⟨S2048x2048, .i1⟩ : BufTy).Contents (Elt F)),
    StableHlo.nullary main_cst_454 (constant S_ .f32 0x00000000#32),
    StableHlo.TRef.unary (StableHlo.TRef.of (T := ⟨S_, .f32⟩) main_cst_454) main_call101.v0 id,
    StableHlo.TRef.unary main_call101.v0 main_call101.v1 (broadcastInDim S2048x2048 ![] bcast_S_S2048x2048),
    StableHlo.TRef.ternary (StableHlo.TRef.of (T := ⟨S2048x2048, .i1⟩) main_v2163) (StableHlo.TRef.of (T := ⟨S2048x2048, .f32⟩) main_v2153) main_call101.v1 main_call101.v2 select,
    StableHlo.binary main_v2164 main_v2161 main_v2165 (mulf : (⟨S2048x2048, .f32⟩ : BufTy).Contents (Elt F) → (⟨S2048x2048, .f32⟩ : BufTy).Contents (Elt F) → (⟨S2048x2048, .f32⟩ : BufTy).Contents (Elt F)),
    StableHlo.unary main_v122 main_v2166 ((transpose S2048x2048 [1, 0] · transposes_S2048x2048_S2048x2048_1_0) : (⟨S2048x2048, .f32⟩ : BufTy).Contents (Elt F) → (⟨S2048x2048, .f32⟩ : BufTy).Contents (Elt F)),
    StableHlo.binary main_v122 main_v2166 main_v2167 ((fun l r => Host.dotGeneral dot_S2048x2048_S2048x2048_S2048x2048_1_0_0_1_n_n none l r) : (⟨S2048x2048, .f32⟩ : BufTy).Contents (Elt F) → (⟨S2048x2048, .f32⟩ : BufTy).Contents (Elt F) → (⟨S2048x2048, .f32⟩ : BufTy).Contents (Elt F)),
    StableHlo.nullary main_cst_455 (constant S_ .f32 0x00000000#32),
    StableHlo.unary main_cst_455 main_v2168 (broadcastInDim S2048x2048 ![] bcast_S_S2048x2048 : (⟨S_, .f32⟩ : BufTy).Contents (Elt F) → (⟨S2048x2048, .f32⟩ : BufTy).Contents (Elt F)),
    StableHlo.binary main_v2167 main_v2168 main_v2169 (cmpf .ogt : (⟨S2048x2048, .f32⟩ : BufTy).Contents (Elt F) → (⟨S2048x2048, .f32⟩ : BufTy).Contents (Elt F) → (⟨S2048x2048, .i1⟩ : BufTy).Contents (Elt F)),
    StableHlo.unary main_v2169 main_v2170 (uitofp .f32 : (⟨S2048x2048, .i1⟩ : BufTy).Contents (Elt F) → (⟨S2048x2048, .f32⟩ : BufTy).Contents (Elt F)),
    StableHlo.binary main_v2170 main_v2161 main_v2171 (mulf : (⟨S2048x2048, .f32⟩ : BufTy).Contents (Elt F) → (⟨S2048x2048, .f32⟩ : BufTy).Contents (Elt F) → (⟨S2048x2048, .f32⟩ : BufTy).Contents (Elt F)),
    StableHlo.binary main_v2165 main_v2171 main_v2172 (mulf : (⟨S2048x2048, .f32⟩ : BufTy).Contents (Elt F) → (⟨S2048x2048, .f32⟩ : BufTy).Contents (Elt F) → (⟨S2048x2048, .f32⟩ : BufTy).Contents (Elt F)),
    StableHlo.nullary main_cst_456 (constant S_ .f32 0x00000000#32),
    StableHlo.binary main_v2172 main_cst_456 main_v2173 ((fun x v => Host.reduceAdd x v reducesTo_S2048x2048_S2048_d1 h_S_) : (⟨S2048x2048, .f32⟩ : BufTy).Contents (Elt F) → (⟨S_, .f32⟩ : BufTy).Contents (Elt F) → (⟨S2048, .f32⟩ : BufTy).Contents (Elt F)),
    StableHlo.unary main_v2173 main_v2174 (broadcastInDim S2048x1 ![0] bcast_S2048_S2048x1_0 : (⟨S2048, .f32⟩ : BufTy).Contents (Elt F) → (⟨S2048x1, .f32⟩ : BufTy).Contents (Elt F)),
    StableHlo.unary main_v2174 main_v2175 (broadcastInDim S2048x2048 ![0, 1] bcast_S2048x1_S2048x2048_0_1 : (⟨S2048x1, .f32⟩ : BufTy).Contents (Elt F) → (⟨S2048x2048, .f32⟩ : BufTy).Contents (Elt F)),
    StableHlo.binary main_v122 main_v2175 main_v2176 (mulf : (⟨S2048x2048, .f32⟩ : BufTy).Contents (Elt F) → (⟨S2048x2048, .f32⟩ : BufTy).Contents (Elt F) → (⟨S2048x2048, .f32⟩ : BufTy).Contents (Elt F)),
    StableHlo.nullary main_cst_457 (constant S_ .f32 0x00000000#32),
    StableHlo.binary main_v2176 main_cst_457 main_v2177 ((fun x v => Host.reduceAdd x v reducesTo_S2048x2048_S2048_d0 h_S_) : (⟨S2048x2048, .f32⟩ : BufTy).Contents (Elt F) → (⟨S_, .f32⟩ : BufTy).Contents (Elt F) → (⟨S2048, .f32⟩ : BufTy).Contents (Elt F)),
    StableHlo.unary main_v2177 main_v2178 (broadcastInDim S2048x1 ![0] bcast_S2048_S2048x1_0 : (⟨S2048, .f32⟩ : BufTy).Contents (Elt F) → (⟨S2048x1, .f32⟩ : BufTy).Contents (Elt F)),
    StableHlo.binary main_v1773 main_v2142 main_v2179 ((fun l r => Host.dotGeneral dot_S2048x256_S256x8_S2048x8_1_0_0_1_n_n none l r) : (⟨S2048x256, .f32⟩ : BufTy).Contents (Elt F) → (⟨S256x8, .f32⟩ : BufTy).Contents (Elt F) → (⟨S2048x8, .f32⟩ : BufTy).Contents (Elt F)) ]

set_option maxRecDepth 16384 in
set_option maxHeartbeats 4000000 in
/-- The window is that line: the called functions unfold at their calls and sequencing re-associates. -/
theorem main_part43_eq (c : Dev nD) : main_part43 (F := F) c = StableHlo.seq ops_part43 := rfl

set_option maxRecDepth 16384 in
set_option maxHeartbeats 4000000 in
/-- Every operation of the window is good; the result's index is compared by computation. -/
theorem ops_part43_good : (ops_part43 : List (HloOp τ sig (Elt F))).Forall (Good 12) :=
  ⟨unary_good (h := by decide) .., reshape_good (h := by decide) .., binary_good (h := by decide) .., binary_good (h := by decide) ..,
    binary_good (h := by decide) .., unary_good (h := by decide) .., nullary_good (h := by decide) .., unary_good (h := by decide) ..,
    binary_good (h := by decide) .., binary_good (h := by decide) .., binary_good (h := by decide) .., binary_good (h := by decide) ..,
    unary_good (h := by decide) .., unary_good (h := by decide) .., reshape_good (h := by decide) .., binary_good (h := by decide) ..,
    nullary_good (h := by decide) .., binary_good (h := by decide) .., unary_good (h := by decide) .., unary_good (h := by decide) ..,
    binary_good (h := by decide) .., unary_good (h := by decide) .., unary_good (h := by decide) .., unary_good (h := by decide) ..,
    unary_good (h := by decide) .., binary_good (h := by decide) .., binary_good (h := by decide) .., nullary_good (h := by decide) ..,
    nullary_good (h := by decide) .., nullary_good (h := by decide) .., unary_good (h := by decide) .., binary_good (h := by decide) ..,
    binary_good (h := by decide) .., unary_good (h := by decide) .., nullary_good (h := by decide) .., unary_good (h := by decide) ..,
    binary_good (h := by decide) .., nullary_good (h := by decide) .., unary_good (h := by decide) .., binary_good (h := by decide) ..,
    nullary_good (h := by decide) .., unary_good (h := by decide) .., unary_good (h := by decide) .., ternary_good (h := by decide) ..,
    binary_good (h := by decide) .., unary_good (h := by decide) .., binary_good (h := by decide) .., nullary_good (h := by decide) ..,
    unary_good (h := by decide) .., binary_good (h := by decide) .., unary_good (h := by decide) .., binary_good (h := by decide) ..,
    binary_good (h := by decide) .., nullary_good (h := by decide) .., binary_good (h := by decide) .., unary_good (h := by decide) ..,
    unary_good (h := by decide) .., binary_good (h := by decide) .., nullary_good (h := by decide) .., binary_good (h := by decide) ..,
    unary_good (h := by decide) .., binary_good (h := by decide) ..⟩

end Cert.ReferenceIdeal.Hand

end
-- ==== Proof.Ref.W44.lean ====
import proofs.«146970_j35948876268088_1_alg».proof.ReferenceIdeal.P07
import proofs.«146970_j35948876268088_1_alg».proof.Proof.Ref.Keep

noncomputable section

namespace Cert.ReferenceIdeal.Hand

open Cert.ReferenceIdeal Idealize.ShloMosaic Idealize.ShloMosaic.TcCoe Idealize.SL.Sem Idealize.ShloMosaic.StableHlo

variable {F : FTy → Type} [FloatOps F]

variable [Facts]
open Facts₀ Facts

set_option maxHeartbeats 4000000 in
/-- The operations of window 44, in order; a called function's operations stand in its call's place. -/
abbrev ops_part44 : List (HloOp τ sig (Elt F)) :=
  [ StableHlo.binary main_v1773 main_v2142 main_v2180 ((fun l r => Host.dotGeneral dot_S2048x256_S256x8_S2048x8_1_0_0_1_n_n none l r) : (⟨S2048x256, .f32⟩ : BufTy).Contents (Elt F) → (⟨S256x8, .f32⟩ : BufTy).Contents (Elt F) → (⟨S2048x8, .f32⟩ : BufTy).Contents (Elt F)),
    StableHlo.binary main_v137 main_v2142 main_v2181 ((fun l r => Host.dotGeneral dot_S2048x256_S256x8_S2048x8_1_0_0_1_n_n none l r) : (⟨S2048x256, .f32⟩ : BufTy).Contents (Elt F) → (⟨S256x8, .f32⟩ : BufTy).Contents (Elt F) → (⟨S2048x8, .f32⟩ : BufTy).Contents (Elt F)),
    StableHlo.unary main_v2140 main_v2182 ((extractStridedSlice S8x1 ![0, 0] · slices_S16x1_S8x1_0_0) : (⟨S16x1, .f32⟩ : BufTy).Contents (Elt F) → (⟨S8x1, .f32⟩ : BufTy).Contents (Elt F)),
    StableHlo.binary main_v2180 main_v2182 main_v2183 ((fun l r => Host.dotGeneral dot_S2048x8_S8x1_S2048x1_1_0_0_1_n_n none l r) : (⟨S2048x8, .f32⟩ : BufTy).Contents (Elt F) → (⟨S8x1, .f32⟩ : BufTy).Contents (Elt F) → (⟨S2048x1, .f32⟩ : BufTy).Contents (Elt F)),
    StableHlo.unary main_v2140 main_v2184 ((extractStridedSlice S8x1 ![8, 0] · slices_S16x1_S8x1_8_0) : (⟨S16x1, .f32⟩ : BufTy).Contents (Elt F) → (⟨S8x1, .f32⟩ : BufTy).Contents (Elt F)),
    StableHlo.binary main_v2181 main_v2184 main_v2185 ((fun l r => Host.dotGeneral dot_S2048x8_S8x1_S2048x1_1_0_0_1_n_n none l r) : (⟨S2048x8, .f32⟩ : BufTy).Contents (Elt F) → (⟨S8x1, .f32⟩ : BufTy).Contents (Elt F) → (⟨S2048x1, .f32⟩ : BufTy).Contents (Elt F)),
    StableHlo.unary main_v2185 main_v2186 ((transpose S1x2048 [1, 0] · transposes_S2048x1_S1x2048_1_0) : (⟨S2048x1, .f32⟩ : BufTy).Contents (Elt F) → (⟨S1x2048, .f32⟩ : BufTy).Contents (Elt F)),
    StableHlo.unary main_v2183 main_v2187 (broadcastInDim S2048x2048 ![0, 1] bcast_S2048x1_S2048x2048_0_1 : (⟨S2048x1, .f32⟩ : BufTy).Contents (Elt F) → (⟨S2048x2048, .f32⟩ : BufTy).Contents (Elt F)),
    StableHlo.unary main_v2186 main_v2188 (broadcastInDim S2048x2048 ![0, 1] bcast_S1x2048_S2048x2048_0_1 : (⟨S1x2048, .f32⟩ : BufTy).Contents (Elt F) → (⟨S2048x2048, .f32⟩ : BufTy).Contents (Elt F)),
    StableHlo.binary main_v2187 main_v2188 main_v2189 (addf : (⟨S2048x2048, .f32⟩ : BufTy).Contents (Elt F) → (⟨S2048x2048, .f32⟩ : BufTy).Contents (Elt F) → (⟨S2048x2048, .f32⟩ : BufTy).Contents (Elt F)),
    StableHlo.nullary main_cst_458 (constant S_ .f32 0x3E4CCCCD#32),
    StableHlo.TRef.nullary main_call102.cst (constant S_ .f32 0x00000000#32),
    StableHlo.TRef.unary main_call102.cst main_call102.v0 (broadcastInDim S2048x2048 ![] bcast_S_S2048x2048),
    StableHlo.TRef.binary (StableHlo.TRef.of (T := ⟨S2048x2048, .f32⟩) main_v2189) main_call102.v0 main_call102.v1 (cmpf .oge),
    StableHlo.TRef.unary (StableHlo.TRef.of (T := ⟨S_, .f32⟩) main_cst_458) main_call102.v2 id,
    StableHlo.TRef.unary main_call102.v2 main_call102.v3 (broadcastInDim S2048x2048 ![] bcast_S_S2048x2048),
    StableHlo.TRef.binary main_call102.v3 (StableHlo.TRef.of (T := ⟨S2048x2048, .f32⟩) main_v2189) main_call102.v4 mulf,
    StableHlo.TRef.ternary main_call102.v1 (StableHlo.TRef.of (T := ⟨S2048x2048, .f32⟩) main_v2189) main_call102.v4 main_call102.call0.v0 select,
    StableHlo.nullary main_cst_459 (constant S_ .f32 0x7F800000#32),
    StableHlo.binary main_v2174 main_cst_459 main_v2191 ((fun x v => Host.reduce FloatOps.minimumf x v reducesTo_S2048x1_S_d0_1 h_S_) : (⟨S2048x1, .f32⟩ : BufTy).Contents (Elt F) → (⟨S_, .f32⟩ : BufTy).Contents (Elt F) → (⟨S_, .f32⟩ : BufTy).Contents (Elt F)),
    StableHlo.unary main_v2191 main_v2192 (broadcastInDim S2048x1 ![] bcast_S_S2048x1 : (⟨S_, .f32⟩ : BufTy).Contents (Elt F) → (⟨S2048x1, .f32⟩ : BufTy).Contents (Elt F)),
    StableHlo.binary main_v2174 main_v2192 main_v2193 (subf : (⟨S2048x1, .f32⟩ : BufTy).Contents (Elt F) → (⟨S2048x1, .f32⟩ : BufTy).Contents (Elt F) → (⟨S2048x1, .f32⟩ : BufTy).Contents (Elt F)),
    StableHlo.nullary main_cst_460 (constant S_ .f32 0xFF800000#32),
    StableHlo.binary main_v2174 main_cst_460 main_v2194 ((fun x v => Host.reduce FloatOps.maximumf x v reducesTo_S2048x1_S_d0_1 h_S_) : (⟨S2048x1, .f32⟩ : BufTy).Contents (Elt F) → (⟨S_, .f32⟩ : BufTy).Contents (Elt F) → (⟨S_, .f32⟩ : BufTy).Contents (Elt F)),
    StableHlo.nullary main_cst_461 (constant S_ .f32 0x7F800000#32),
    StableHlo.binary main_v2174 main_cst_461 main_v2195 ((fun x v => Host.reduce FloatOps.minimumf x v reducesTo_S2048x1_S_d0_1 h_S_) : (⟨S2048x1, .f32⟩ : BufTy).Contents (Elt F) → (⟨S_, .f32⟩ : BufTy).Contents (Elt F) → (⟨S_, .f32⟩ : BufTy).Contents (Elt F)),
    StableHlo.binary main_v2194 main_v2195 main_v2196 (subf : (⟨S_, .f32⟩ : BufTy).Contents (Elt F) → (⟨S_, .f32⟩ : BufTy).Contents (Elt F) → (⟨S_, .f32⟩ : BufTy).Contents (Elt F)),
    StableHlo.unary main_v2196 main_v2197 (broadcastInDim S2048x1 ![] bcast_S_S2048x1 : (⟨S_, .f32⟩ : BufTy).Contents (Elt F) → (⟨S2048x1, .f32⟩ : BufTy).Contents (Elt F)),
    StableHlo.binary main_v2193 main_v2197 main_v2198 (Host.divf : (⟨S2048x1, .f32⟩ : BufTy).Contents (Elt F) → (⟨S2048x1, .f32⟩ : BufTy).Contents (Elt F) → (⟨S2048x1, .f32⟩ : BufTy).Contents (Elt F)),
    StableHlo.nullary main_cst_462 (constant S_ .f32 0xFF800000#32),
    StableHlo.binary main_v2190 main_cst_462 main_v2199 ((fun x v => Host.reduce FloatOps.maximumf x v reducesTo_S2048x2048_S_d0_1 h_S_) : (⟨S2048x2048, .f32⟩ : BufTy).Contents (Elt F) → (⟨S_, .f32⟩ : BufTy).Contents (Elt F) → (⟨S_, .f32⟩ : BufTy).Contents (Elt F)),
    StableHlo.unary main_v2199 main_v2200 (broadcastInDim S2048x1 ![] bcast_S_S2048x1 : (⟨S_, .f32⟩ : BufTy).Contents (Elt F) → (⟨S2048x1, .f32⟩ : BufTy).Contents (Elt F)),
    StableHlo.binary main_v2198 main_v2200 main_v2201 (mulf : (⟨S2048x1, .f32⟩ : BufTy).Contents (Elt F) → (⟨S2048x1, .f32⟩ : BufTy).Contents (Elt F) → (⟨S2048x1, .f32⟩ : BufTy).Contents (Elt F)),
    StableHlo.nullary main_cst_463 (constant S_ .f32 0x00000000#32),
    StableHlo.unary main_cst_463 main_v2202 (broadcastInDim S2048x2048 ![] bcast_S_S2048x2048 : (⟨S_, .f32⟩ : BufTy).Contents (Elt F) → (⟨S2048x2048, .f32⟩ : BufTy).Contents (Elt F)),
    StableHlo.binary main_v122 main_v2202 main_v2203 (cmpf .ogt : (⟨S2048x2048, .f32⟩ : BufTy).Contents (Elt F) → (⟨S2048x2048, .f32⟩ : BufTy).Contents (Elt F) → (⟨S2048x2048, .i1⟩ : BufTy).Contents (Elt F)),
    StableHlo.unary main_v2201 main_v2204 (broadcastInDim S2048x2048 ![0, 1] bcast_S2048x1_S2048x2048_0_1 : (⟨S2048x1, .f32⟩ : BufTy).Contents (Elt F) → (⟨S2048x2048, .f32⟩ : BufTy).Contents (Elt F)),
    StableHlo.binary main_v2190 main_v2204 main_v2205 (addf : (⟨S2048x2048, .f32⟩ : BufTy).Contents (Elt F) → (⟨S2048x2048, .f32⟩ : BufTy).Contents (Elt F) → (⟨S2048x2048, .f32⟩ : BufTy).Contents (Elt F)),
    StableHlo.nullary main_cst_464 (constant S_ .f32 0xD368D4A5#32),
    StableHlo.TRef.unary (StableHlo.TRef.of (T := ⟨S_, .f32⟩) main_cst_464) main_call103.v0 id,
    StableHlo.TRef.unary main_call103.v0 main_call103.v1 (broadcastInDim S2048x2048 ![] bcast_S_S2048x2048),
    StableHlo.TRef.ternary (StableHlo.TRef.of (T := ⟨S2048x2048, .i1⟩) main_v2203) (StableHlo.TRef.of (T := ⟨S2048x2048, .f32⟩) main_v2205) main_call103.v1 main_call103.v2 select,
    StableHlo.nullary main_cst_465 (constant S_ .f32 0xFF800000#32),
    StableHlo.binary main_v2206 main_cst_465 main_v2207 ((fun x v => Host.reduce FloatOps.maximumf x v reducesTo_S2048x2048_S2048_d1 h_S_) : (⟨S2048x2048, .f32⟩ : BufTy).Contents (Elt F) → (⟨S_, .f32⟩ : BufTy).Contents (Elt F) → (⟨S2048, .f32⟩ : BufTy).Contents (Elt F)),
    StableHlo.nullary main_cst_466 (constant S_ .f32 0xFF800000#32),
    StableHlo.unary main_cst_466 main_v2208 (broadcastInDim S2048 ![] bcast_S_S2048 : (⟨S_, .f32⟩ : BufTy).Contents (Elt F) → (⟨S2048, .f32⟩ : BufTy).Contents (Elt F)),
    StableHlo.binary main_v2208 main_v2207 main_v2209 (maximumf : (⟨S2048, .f32⟩ : BufTy).Contents (Elt F) → (⟨S2048, .f32⟩ : BufTy).Contents (Elt F) → (⟨S2048, .f32⟩ : BufTy).Contents (Elt F)),
    StableHlo.unary main_v2209 main_v2210 (broadcastInDim S2048x1 ![0] bcast_S2048_S2048x1_0 : (⟨S2048, .f32⟩ : BufTy).Contents (Elt F) → (⟨S2048x1, .f32⟩ : BufTy).Contents (Elt F)),
    StableHlo.unary main_v2210 main_v2211 (broadcastInDim S2048x2048 ![0, 1] bcast_S2048x1_S2048x2048_0_1 : (⟨S2048x1, .f32⟩ : BufTy).Contents (Elt F) → (⟨S2048x2048, .f32⟩ : BufTy).Contents (Elt F)),
    StableHlo.binary main_v2206 main_v2211 main_v2212 (subf : (⟨S2048x2048, .f32⟩ : BufTy).Contents (Elt F) → (⟨S2048x2048, .f32⟩ : BufTy).Contents (Elt F) → (⟨S2048x2048, .f32⟩ : BufTy).Contents (Elt F)),
    StableHlo.unary main_v2212 main_v2213 (Host.exp : (⟨S2048x2048, .f32⟩ : BufTy).Contents (Elt F) → (⟨S2048x2048, .f32⟩ : BufTy).Contents (Elt F)),
    StableHlo.nullary main_cst_467 (constant S_ .f32 0x00000000#32),
    StableHlo.binary main_v2213 main_cst_467 main_v2214 ((fun x v => Host.reduceAdd x v reducesTo_S2048x2048_S2048_d1 h_S_) : (⟨S2048x2048, .f32⟩ : BufTy).Contents (Elt F) → (⟨S_, .f32⟩ : BufTy).Contents (Elt F) → (⟨S2048, .f32⟩ : BufTy).Contents (Elt F)),
    StableHlo.unary main_v2214 main_v2215 (broadcastInDim S2048x1 ![0] bcast_S2048_S2048x1_0 : (⟨S2048, .f32⟩ : BufTy).Contents (Elt F) → (⟨S2048x1, .f32⟩ : BufTy).Contents (Elt F)),
    StableHlo.unary main_v2215 main_v2216 (broadcastInDim S2048x2048 ![0, 1] bcast_S2048x1_S2048x2048_0_1 : (⟨S2048x1, .f32⟩ : BufTy).Contents (Elt F) → (⟨S2048x2048, .f32⟩ : BufTy).Contents (Elt F)),
    StableHlo.binary main_v2213 main_v2216 main_v2217 (Host.divf : (⟨S2048x2048, .f32⟩ : BufTy).Contents (Elt F) → (⟨S2048x2048, .f32⟩ : BufTy).Contents (Elt F) → (⟨S2048x2048, .f32⟩ : BufTy).Contents (Elt F)),
    StableHlo.unary main_v2217 main_v2218 ((transpose S2048x2048 [1, 0] · transposes_S2048x2048_S2048x2048_1_0) : (⟨S2048x2048, .f32⟩ : BufTy).Contents (Elt F) → (⟨S2048x2048, .f32⟩ : BufTy).Contents (Elt F)),
    StableHlo.binary main_v2218 main_v2179 main_v2219 ((fun l r => Host.dotGeneral dot_S2048x2048_S2048x8_S2048x8_1_0_0_1_n_n none l r) : (⟨S2048x2048, .f32⟩ : BufTy).Contents (Elt F) → (⟨S2048x8, .f32⟩ : BufTy).Contents (Elt F) → (⟨S2048x8, .f32⟩ : BufTy).Contents (Elt F)),
    StableHlo.TRef.nullary main_call104.cst (constant S_ .f32 0x00000000#32),
    StableHlo.TRef.unary main_call104.cst main_call104.v0 (broadcastInDim S2048x8 ![] bcast_S_S2048x8),
    StableHlo.TRef.binary (StableHlo.TRef.of (T := ⟨S2048x8, .f32⟩) main_v2219) main_call104.v0 main_call104.v1 (cmpf .ogt),
    StableHlo.TRef.nullary main_call104.cst_0 (constant S_ .f32 0x00000000#32),
    StableHlo.TRef.unary main_call104.cst_0 main_call104.v2 (broadcastInDim S2048x8 ![] bcast_S_S2048x8),
    StableHlo.TRef.binary (StableHlo.TRef.of (T := ⟨S2048x8, .f32⟩) main_v2219) main_call104.v2 main_call104.v3 (cmpf .ogt),
    StableHlo.TRef.nullary main_call104.cst_1 (constant S_ .f32 0x00000000#32),
    StableHlo.TRef.unary main_call104.cst_1 main_call104.call0.v0 id,
    StableHlo.TRef.unary main_call104.call0.v0 main_call104.call0.v1 (broadcastInDim S2048x8 ![] bcast_S_S2048x8),
    StableHlo.TRef.ternary main_call104.v3 main_call104.call0.v1 (StableHlo.TRef.of (T := ⟨S2048x8, .f32⟩) main_v2219) main_call104.call0.v2 select,
    StableHlo.TRef.unary main_call104.call0.v2 main_call104.v5 Host.expm1,
    StableHlo.TRef.nullary main_call104.cst_2 (constant S_ .f32 0x3F800000#32),
    StableHlo.TRef.unary main_call104.cst_2 main_call104.v6 (broadcastInDim S2048x8 ![] bcast_S_S2048x8),
    StableHlo.TRef.binary main_call104.v6 main_call104.v5 main_call104.v7 mulf,
    StableHlo.TRef.ternary main_call104.v1 (StableHlo.TRef.of (T := ⟨S2048x8, .f32⟩) main_v2219) main_call104.v7 main_call104.call1.v0 select,
    StableHlo.unary main_v122 main_v2221 ((transpose S2048x2048 [1, 0] · transposes_S2048x2048_S2048x2048_1_0) : (⟨S2048x2048, .f32⟩ : BufTy).Contents (Elt F) → (⟨S2048x2048, .f32⟩ : BufTy).Contents (Elt F)),
    StableHlo.binary main_v137 main_v2142 main_v2222 ((fun l r => Host.dotGeneral dot_S2048x256_S256x8_S2048x8_1_0_0_1_n_n none l r) : (⟨S2048x256, .f32⟩ : BufTy).Contents (Elt F) → (⟨S256x8, .f32⟩ : BufTy).Contents (Elt F) → (⟨S2048x8, .f32⟩ : BufTy).Contents (Elt F)),
    StableHlo.binary main_v1773 main_v2142 main_v2223 ((fun l r => Host.dotGeneral dot_S2048x256_S256x8_S2048x8_1_0_0_1_n_n none l r) : (⟨S2048x256, .f32⟩ : BufTy).Contents (Elt F) → (⟨S256x8, .f32⟩ : BufTy).Contents (Elt F) → (⟨S2048x8, .f32⟩ : BufTy).Contents (Elt F)),
    StableHlo.unary main_v2141 main_v2224 ((extractStridedSlice S8x1 ![0, 0] · slices_S16x1_S8x1_0_0) : (⟨S16x1, .f32⟩ : BufTy).Contents (Elt F) → (⟨S8x1, .f32⟩ : BufTy).Contents (Elt F)),
    StableHlo.binary main_v2222 main_v2224 main_v2225 ((fun l r => Host.dotGeneral dot_S2048x8_S8x1_S2048x1_1_0_0_1_n_n none l r) : (⟨S2048x8, .f32⟩ : BufTy).Contents (Elt F) → (⟨S8x1, .f32⟩ : BufTy).Contents (Elt F) → (⟨S2048x1, .f32⟩ : BufTy).Contents (Elt F)),
    StableHlo.unary main_v2141 main_v2226 ((extractStridedSlice S8x1 ![8, 0] · slices_S16x1_S8x1_8_0) : (⟨S16x1, .f32⟩ : BufTy).Contents (Elt F) → (⟨S8x1, .f32⟩ : BufTy).Contents (Elt F)),
    StableHlo.binary main_v2223 main_v2226 main_v2227 ((fun l r => Host.dotGeneral dot_S2048x8_S8x1_S2048x1_1_0_0_1_n_n none l r) : (⟨S2048x8, .f32⟩ : BufTy).Contents (Elt F) → (⟨S8x1, .f32⟩ : BufTy).Contents (Elt F) → (⟨S2048x1, .f32⟩ : BufTy).Contents (Elt F)),
    StableHlo.unary main_v2227 main_v2228 ((transpose S1x2048 [1, 0] · transposes_S2048x1_S1x2048_1_0) : (⟨S2048x1, .f32⟩ : BufTy).Contents (Elt F) → (⟨S1x2048, .f32⟩ : BufTy).Contents (Elt F)),
    StableHlo.unary main_v2225 main_v2229 (broadcastInDim S2048x2048 ![0, 1] bcast_S2048x1_S2048x2048_0_1 : (⟨S2048x1, .f32⟩ : BufTy).Contents (Elt F) → (⟨S2048x2048, .f32⟩ : BufTy).Contents (Elt F)) ]

set_option maxRecDepth 16384 in
set_option maxHeartbeats 4000000 in
/-- The window is that line: the called functions unfold at their calls and sequencing re-associates. -/
theorem main_part44_eq (c : Dev nD) : main_part44 (F := F) c = StableHlo.seq ops_part44 := rfl

set_option maxRecDepth 16384 in
set_option maxHeartbeats 4000000 in
/-- Every operation of the window is good; the result's index is compared by computation. -/
theorem ops_part44_good : (ops_part44 : List (HloOp τ sig (Elt F))).Forall (Good 12) :=
  ⟨binary_good (h := by decide) .., binary_good (h := by decide) .., unary_good (h := by decide) .., binary_good (h := by decide) ..,
    unary_good (h := by decide) .., binary_good (h := by decide) .., unary_good (h := by decide) .., unary_good (h := by decide) ..,
    unary_good (h := by decide) .., binary_good (h := by decide) .., nullary_good (h := by decide) .., nullary_good (h := by decide) ..,
    unary_good (h := by decide) .., binary_good (h := by decide) .., unary_good (h := by decide) .., unary_good (h := by decide) ..,
    binary_good (h := by decide) .., ternary_good (h := by decide) .., nullary_good (h := by decide) .., binary_good (h := by decide) ..,
    unary_good (h := by decide) .., binary_good (h := by decide) .., nullary_good (h := by decide) .., binary_good (h := by decide) ..,
    nullary_good (h := by decide) .., binary_good (h := by decide) .., binary_good (h := by decide) .., unary_good (h := by decide) ..,
    binary_good (h := by decide) .., nullary_good (h := by decide) .., binary_good (h := by decide) .., unary_good (h := by decide) ..,
    binary_good (h := by decide) .., nullary_good (h := by decide) .., unary_good (h := by decide) .., binary_good (h := by decide) ..,
    unary_good (h := by decide) .., binary_good (h := by decide) .., nullary_good (h := by decide) .., unary_good (h := by decide) ..,
    unary_good (h := by decide) .., ternary_good (h := by decide) .., nullary_good (h := by decide) .., binary_good (h := by decide) ..,
    nullary_good (h := by decide) .., unary_good (h := by decide) .., binary_good (h := by decide) .., unary_good (h := by decide) ..,
    unary_good (h := by decide) .., binary_good (h := by decide) .., unary_good (h := by decide) .., nullary_good (h := by decide) ..,
    binary_good (h := by decide) .., unary_good (h := by decide) .., unary_good (h := by decide) .., binary_good (h := by decide) ..,
    unary_good (h := by decide) .., binary_good (h := by decide) .., nullary_good (h := by decide) .., unary_good (h := by decide) ..,
    binary_good (h := by decide) .., nullary_good (h := by decide) .., unary_good (h := by decide) .., binary_good (h := by decide) ..,
    nullary_good (h := by decide) .., unary_good (h := by decide) .., unary_good (h := by decide) .., ternary_good (h := by decide) ..,
    unary_good (h := by decide) .., nullary_good (h := by decide) .., unary_good (h := by decide) .., binary_good (h := by decide) ..,
    ternary_good (h := by decide) .., unary_good (h := by decide) .., binary_good (h := by decide) .., binary_good (h := by decide) ..,
    unary_good (h := by decide) .., binary_good (h := by decide) .., unary_good (h := by decide) .., binary_good (h := by decide) ..,
    unary_good (h := by decide) .., unary_good (h := by decide) ..⟩

end Cert.ReferenceIdeal.Hand

end
-- ==== Proof.Ref.W45.lean ====
import proofs.«146970_j35948876268088_1_alg».proof.ReferenceIdeal
import proofs.«146970_j35948876268088_1_alg».proof.Proof.Ref.Keep

noncomputable section

namespace Cert.ReferenceIdeal.Hand

open Cert.ReferenceIdeal Idealize.ShloMosaic Idealize.ShloMosaic.TcCoe Idealize.SL.Sem Idealize.ShloMosaic.StableHlo

variable {F : FTy → Type} [FloatOps F]

variable [Facts]
open Facts₀ Facts

set_option maxHeartbeats 4000000 in
/-- The operations of window 45, in order; a called function's operations stand in its call's place. -/
abbrev ops_part45 : List (HloOp τ sig (Elt F)) :=
  [ StableHlo.unary main_v2228 main_v2230 (broadcastInDim S2048x2048 ![0, 1] bcast_S1x2048_S2048x2048_0_1 : (⟨S1x2048, .f32⟩ : BufTy).Contents (Elt F) → (⟨S2048x2048, .f32⟩ : BufTy).Contents (Elt F)),
    StableHlo.binary main_v2229 main_v2230 main_v2231 (addf : (⟨S2048x2048, .f32⟩ : BufTy).Contents (Elt F) → (⟨S2048x2048, .f32⟩ : BufTy).Contents (Elt F) → (⟨S2048x2048, .f32⟩ : BufTy).Contents (Elt F)),
    StableHlo.nullary main_cst_468 (constant S_ .f32 0x3E4CCCCD#32),
    StableHlo.TRef.nullary main_call105.cst (constant S_ .f32 0x00000000#32),
    StableHlo.TRef.unary main_call105.cst main_call105.v0 (broadcastInDim S2048x2048 ![] bcast_S_S2048x2048),
    StableHlo.TRef.binary (StableHlo.TRef.of (T := ⟨S2048x2048, .f32⟩) main_v2231) main_call105.v0 main_call105.v1 (cmpf .oge),
    StableHlo.TRef.unary (StableHlo.TRef.of (T := ⟨S_, .f32⟩) main_cst_468) main_call105.v2 id,
    StableHlo.TRef.unary main_call105.v2 main_call105.v3 (broadcastInDim S2048x2048 ![] bcast_S_S2048x2048),
    StableHlo.TRef.binary main_call105.v3 (StableHlo.TRef.of (T := ⟨S2048x2048, .f32⟩) main_v2231) main_call105.v4 mulf,
    StableHlo.TRef.ternary main_call105.v1 (StableHlo.TRef.of (T := ⟨S2048x2048, .f32⟩) main_v2231) main_call105.v4 main_call105.call0.v0 select,
    StableHlo.nullary main_cst_469 (constant S_ .f32 0x7F800000#32),
    StableHlo.binary main_v2178 main_cst_469 main_v2233 ((fun x v => Host.reduce FloatOps.minimumf x v reducesTo_S2048x1_S_d0_1 h_S_) : (⟨S2048x1, .f32⟩ : BufTy).Contents (Elt F) → (⟨S_, .f32⟩ : BufTy).Contents (Elt F) → (⟨S_, .f32⟩ : BufTy).Contents (Elt F)),
    StableHlo.unary main_v2233 main_v2234 (broadcastInDim S2048x1 ![] bcast_S_S2048x1 : (⟨S_, .f32⟩ : BufTy).Contents (Elt F) → (⟨S2048x1, .f32⟩ : BufTy).Contents (Elt F)),
    StableHlo.binary main_v2178 main_v2234 main_v2235 (subf : (⟨S2048x1, .f32⟩ : BufTy).Contents (Elt F) → (⟨S2048x1, .f32⟩ : BufTy).Contents (Elt F) → (⟨S2048x1, .f32⟩ : BufTy).Contents (Elt F)),
    StableHlo.nullary main_cst_470 (constant S_ .f32 0xFF800000#32),
    StableHlo.binary main_v2178 main_cst_470 main_v2236 ((fun x v => Host.reduce FloatOps.maximumf x v reducesTo_S2048x1_S_d0_1 h_S_) : (⟨S2048x1, .f32⟩ : BufTy).Contents (Elt F) → (⟨S_, .f32⟩ : BufTy).Contents (Elt F) → (⟨S_, .f32⟩ : BufTy).Contents (Elt F)),
    StableHlo.nullary main_cst_471 (constant S_ .f32 0x7F800000#32),
    StableHlo.binary main_v2178 main_cst_471 main_v2237 ((fun x v => Host.reduce FloatOps.minimumf x v reducesTo_S2048x1_S_d0_1 h_S_) : (⟨S2048x1, .f32⟩ : BufTy).Contents (Elt F) → (⟨S_, .f32⟩ : BufTy).Contents (Elt F) → (⟨S_, .f32⟩ : BufTy).Contents (Elt F)),
    StableHlo.binary main_v2236 main_v2237 main_v2238 (subf : (⟨S_, .f32⟩ : BufTy).Contents (Elt F) → (⟨S_, .f32⟩ : BufTy).Contents (Elt F) → (⟨S_, .f32⟩ : BufTy).Contents (Elt F)),
    StableHlo.unary main_v2238 main_v2239 (broadcastInDim S2048x1 ![] bcast_S_S2048x1 : (⟨S_, .f32⟩ : BufTy).Contents (Elt F) → (⟨S2048x1, .f32⟩ : BufTy).Contents (Elt F)),
    StableHlo.binary main_v2235 main_v2239 main_v2240 (Host.divf : (⟨S2048x1, .f32⟩ : BufTy).Contents (Elt F) → (⟨S2048x1, .f32⟩ : BufTy).Contents (Elt F) → (⟨S2048x1, .f32⟩ : BufTy).Contents (Elt F)),
    StableHlo.nullary main_cst_472 (constant S_ .f32 0xFF800000#32),
    StableHlo.binary main_v2232 main_cst_472 main_v2241 ((fun x v => Host.reduce FloatOps.maximumf x v reducesTo_S2048x2048_S_d0_1 h_S_) : (⟨S2048x2048, .f32⟩ : BufTy).Contents (Elt F) → (⟨S_, .f32⟩ : BufTy).Contents (Elt F) → (⟨S_, .f32⟩ : BufTy).Contents (Elt F)),
    StableHlo.unary main_v2241 main_v2242 (broadcastInDim S2048x1 ![] bcast_S_S2048x1 : (⟨S_, .f32⟩ : BufTy).Contents (Elt F) → (⟨S2048x1, .f32⟩ : BufTy).Contents (Elt F)),
    StableHlo.binary main_v2240 main_v2242 main_v2243 (mulf : (⟨S2048x1, .f32⟩ : BufTy).Contents (Elt F) → (⟨S2048x1, .f32⟩ : BufTy).Contents (Elt F) → (⟨S2048x1, .f32⟩ : BufTy).Contents (Elt F)),
    StableHlo.nullary main_cst_473 (constant S_ .f32 0x00000000#32),
    StableHlo.unary main_cst_473 main_v2244 (broadcastInDim S2048x2048 ![] bcast_S_S2048x2048 : (⟨S_, .f32⟩ : BufTy).Contents (Elt F) → (⟨S2048x2048, .f32⟩ : BufTy).Contents (Elt F)),
    StableHlo.binary main_v2221 main_v2244 main_v2245 (cmpf .ogt : (⟨S2048x2048, .f32⟩ : BufTy).Contents (Elt F) → (⟨S2048x2048, .f32⟩ : BufTy).Contents (Elt F) → (⟨S2048x2048, .i1⟩ : BufTy).Contents (Elt F)),
    StableHlo.unary main_v2243 main_v2246 (broadcastInDim S2048x2048 ![0, 1] bcast_S2048x1_S2048x2048_0_1 : (⟨S2048x1, .f32⟩ : BufTy).Contents (Elt F) → (⟨S2048x2048, .f32⟩ : BufTy).Contents (Elt F)),
    StableHlo.binary main_v2232 main_v2246 main_v2247 (addf : (⟨S2048x2048, .f32⟩ : BufTy).Contents (Elt F) → (⟨S2048x2048, .f32⟩ : BufTy).Contents (Elt F) → (⟨S2048x2048, .f32⟩ : BufTy).Contents (Elt F)),
    StableHlo.nullary main_cst_474 (constant S_ .f32 0xD368D4A5#32),
    StableHlo.TRef.unary (StableHlo.TRef.of (T := ⟨S_, .f32⟩) main_cst_474) main_call106.v0 id,
    StableHlo.TRef.unary main_call106.v0 main_call106.v1 (broadcastInDim S2048x2048 ![] bcast_S_S2048x2048),
    StableHlo.TRef.ternary (StableHlo.TRef.of (T := ⟨S2048x2048, .i1⟩) main_v2245) (StableHlo.TRef.of (T := ⟨S2048x2048, .f32⟩) main_v2247) main_call106.v1 main_call106.v2 select,
    StableHlo.nullary main_cst_475 (constant S_ .f32 0xFF800000#32),
    StableHlo.binary main_v2248 main_cst_475 main_v2249 ((fun x v => Host.reduce FloatOps.maximumf x v reducesTo_S2048x2048_S2048_d1 h_S_) : (⟨S2048x2048, .f32⟩ : BufTy).Contents (Elt F) → (⟨S_, .f32⟩ : BufTy).Contents (Elt F) → (⟨S2048, .f32⟩ : BufTy).Contents (Elt F)),
    StableHlo.nullary main_cst_476 (constant S_ .f32 0xFF800000#32),
    StableHlo.unary main_cst_476 main_v2250 (broadcastInDim S2048 ![] bcast_S_S2048 : (⟨S_, .f32⟩ : BufTy).Contents (Elt F) → (⟨S2048, .f32⟩ : BufTy).Contents (Elt F)),
    StableHlo.binary main_v2250 main_v2249 main_v2251 (maximumf : (⟨S2048, .f32⟩ : BufTy).Contents (Elt F) → (⟨S2048, .f32⟩ : BufTy).Contents (Elt F) → (⟨S2048, .f32⟩ : BufTy).Contents (Elt F)),
    StableHlo.unary main_v2251 main_v2252 (broadcastInDim S2048x1 ![0] bcast_S2048_S2048x1_0 : (⟨S2048, .f32⟩ : BufTy).Contents (Elt F) → (⟨S2048x1, .f32⟩ : BufTy).Contents (Elt F)),
    StableHlo.unary main_v2252 main_v2253 (broadcastInDim S2048x2048 ![0, 1] bcast_S2048x1_S2048x2048_0_1 : (⟨S2048x1, .f32⟩ : BufTy).Contents (Elt F) → (⟨S2048x2048, .f32⟩ : BufTy).Contents (Elt F)),
    StableHlo.binary main_v2248 main_v2253 main_v2254 (subf : (⟨S2048x2048, .f32⟩ : BufTy).Contents (Elt F) → (⟨S2048x2048, .f32⟩ : BufTy).Contents (Elt F) → (⟨S2048x2048, .f32⟩ : BufTy).Contents (Elt F)),
    StableHlo.unary main_v2254 main_v2255 (Host.exp : (⟨S2048x2048, .f32⟩ : BufTy).Contents (Elt F) → (⟨S2048x2048, .f32⟩ : BufTy).Contents (Elt F)),
    StableHlo.nullary main_cst_477 (constant S_ .f32 0x00000000#32),
    StableHlo.binary main_v2255 main_cst_477 main_v2256 ((fun x v => Host.reduceAdd x v reducesTo_S2048x2048_S2048_d1 h_S_) : (⟨S2048x2048, .f32⟩ : BufTy).Contents (Elt F) → (⟨S_, .f32⟩ : BufTy).Contents (Elt F) → (⟨S2048, .f32⟩ : BufTy).Contents (Elt F)),
    StableHlo.unary main_v2256 main_v2257 (broadcastInDim S2048x1 ![0] bcast_S2048_S2048x1_0 : (⟨S2048, .f32⟩ : BufTy).Contents (Elt F) → (⟨S2048x1, .f32⟩ : BufTy).Contents (Elt F)),
    StableHlo.unary main_v2257 main_v2258 (broadcastInDim S2048x2048 ![0, 1] bcast_S2048x1_S2048x2048_0_1 : (⟨S2048x1, .f32⟩ : BufTy).Contents (Elt F) → (⟨S2048x2048, .f32⟩ : BufTy).Contents (Elt F)),
    StableHlo.binary main_v2255 main_v2258 main_v2259 (Host.divf : (⟨S2048x2048, .f32⟩ : BufTy).Contents (Elt F) → (⟨S2048x2048, .f32⟩ : BufTy).Contents (Elt F) → (⟨S2048x2048, .f32⟩ : BufTy).Contents (Elt F)),
    StableHlo.unary main_v2259 main_v2260 ((transpose S2048x2048 [1, 0] · transposes_S2048x2048_S2048x2048_1_0) : (⟨S2048x2048, .f32⟩ : BufTy).Contents (Elt F) → (⟨S2048x2048, .f32⟩ : BufTy).Contents (Elt F)),
    StableHlo.binary main_v2260 main_v2220 main_v2261 ((fun l r => Host.dotGeneral dot_S2048x2048_S2048x8_S2048x8_1_0_0_1_n_n none l r) : (⟨S2048x2048, .f32⟩ : BufTy).Contents (Elt F) → (⟨S2048x8, .f32⟩ : BufTy).Contents (Elt F) → (⟨S2048x8, .f32⟩ : BufTy).Contents (Elt F)),
    StableHlo.TRef.nullary main_call107.cst (constant S_ .f32 0x00000000#32),
    StableHlo.TRef.unary main_call107.cst main_call107.v0 (broadcastInDim S2048x8 ![] bcast_S_S2048x8),
    StableHlo.TRef.binary (StableHlo.TRef.of (T := ⟨S2048x8, .f32⟩) main_v2261) main_call107.v0 main_call107.v1 (cmpf .ogt),
    StableHlo.TRef.nullary main_call107.cst_0 (constant S_ .f32 0x00000000#32),
    StableHlo.TRef.unary main_call107.cst_0 main_call107.v2 (broadcastInDim S2048x8 ![] bcast_S_S2048x8),
    StableHlo.TRef.binary (StableHlo.TRef.of (T := ⟨S2048x8, .f32⟩) main_v2261) main_call107.v2 main_call107.v3 (cmpf .ogt),
    StableHlo.TRef.nullary main_call107.cst_1 (constant S_ .f32 0x00000000#32),
    StableHlo.TRef.unary main_call107.cst_1 main_call107.call0.v0 id,
    StableHlo.TRef.unary main_call107.call0.v0 main_call107.call0.v1 (broadcastInDim S2048x8 ![] bcast_S_S2048x8),
    StableHlo.TRef.ternary main_call107.v3 main_call107.call0.v1 (StableHlo.TRef.of (T := ⟨S2048x8, .f32⟩) main_v2261) main_call107.call0.v2 select,
    StableHlo.TRef.unary main_call107.call0.v2 main_call107.v5 Host.expm1,
    StableHlo.TRef.nullary main_call107.cst_2 (constant S_ .f32 0x3F800000#32),
    StableHlo.TRef.unary main_call107.cst_2 main_call107.v6 (broadcastInDim S2048x8 ![] bcast_S_S2048x8),
    StableHlo.TRef.binary main_call107.v6 main_call107.v5 main_call107.v7 mulf,
    StableHlo.TRef.ternary main_call107.v1 (StableHlo.TRef.of (T := ⟨S2048x8, .f32⟩) main_v2261) main_call107.v7 main_call107.call1.v0 select ]

set_option maxRecDepth 16384 in
set_option maxHeartbeats 4000000 in
/-- The window is that line: the called functions unfold at their calls and sequencing re-associates. -/
theorem main_part45_eq (c : Dev nD) : main_part45 (F := F) c = StableHlo.seq ops_part45 := rfl

set_option maxRecDepth 16384 in
set_option maxHeartbeats 4000000 in
/-- Every operation of the window is good; the result's index is compared by computation. -/
theorem ops_part45_good : (ops_part45 : List (HloOp τ sig (Elt F))).Forall (Good 12) :=
  ⟨unary_good (h := by decide) .., binary_good (h := by decide) .., nullary_good (h := by decide) .., nullary_good (h := by decide) ..,
    unary_good (h := by decide) .., binary_good (h := by decide) .., unary_good (h := by decide) .., unary_good (h := by decide) ..,
    binary_good (h := by decide) .., ternary_good (h := by decide) .., nullary_good (h := by decide) .., binary_good (h := by decide) ..,
    unary_good (h := by decide) .., binary_good (h := by decide) .., nullary_good (h := by decide) .., binary_good (h := by decide) ..,
    nullary_good (h := by decide) .., binary_good (h := by decide) .., binary_good (h := by decide) .., unary_good (h := by decide) ..,
    binary_good (h := by decide) .., nullary_good (h := by decide) .., binary_good (h := by decide) .., unary_good (h := by decide) ..,
    binary_good (h := by decide) .., nullary_good (h := by decide) .., unary_good (h := by decide) .., binary_good (h := by decide) ..,
    unary_good (h := by decide) .., binary_good (h := by decide) .., nullary_good (h := by decide) .., unary_good (h := by decide) ..,
    unary_good (h := by decide) .., ternary_good (h := by decide) .., nullary_good (h := by decide) .., binary_good (h := by decide) ..,
    nullary_good (h := by decide) .., unary_good (h := by decide) .., binary_good (h := by decide) .., unary_good (h := by decide) ..,
    unary_good (h := by decide) .., binary_good (h := by decide) .., unary_good (h := by decide) .., nullary_good (h := by decide) ..,
    binary_good (h := by decide) .., unary_good (h := by decide) .., unary_good (h := by decide) .., binary_good (h := by decide) ..,
    unary_good (h := by decide) .., binary_good (h := by decide) .., nullary_good (h := by decide) .., unary_good (h := by decide) ..,
    binary_good (h := by decide) .., nullary_good (h := by decide) .., unary_good (h := by decide) .., binary_good (h := by decide) ..,
    nullary_good (h := by decide) .., unary_good (h := by decide) .., unary_good (h := by decide) .., ternary_good (h := by decide) ..,
    unary_good (h := by decide) .., nullary_good (h := by decide) .., unary_good (h := by decide) .., binary_good (h := by decide) ..,
    ternary_good (h := by decide) ..⟩

end Cert.ReferenceIdeal.Hand

end
-- ==== Proof.Ref.Frame.lean ====
/-
  The reference program's run. @main is one straight line of host operations: the concatenation `ops` of its
  forty-six windows' lines (`main_eq`), every operation of it good for a run that keeps the twelve argument buffers
  (`ops_good`). So from any memory with zero counters every weakly fair execution of @main on the TensorCores
  terminates, the result buffer ends at the fold `StableHlo.after ops` of the operations over the launch contents,
  read at that buffer, and each argument buffer ends as launched (no operation writes an index below 12).
-/
import proofs.«146970_j35948876268088_1_alg».proof.Proof.Ref.W00
import proofs.«146970_j35948876268088_1_alg».proof.Proof.Ref.W01
import proofs.«146970_j35948876268088_1_alg».proof.Proof.Ref.W02
import proofs.«146970_j35948876268088_1_alg».proof.Proof.Ref.W03
import proofs.«146970_j35948876268088_1_alg».proof.Proof.Ref.W04
import proofs.«146970_j35948876268088_1_alg».proof.Proof.Ref.W05
import proofs.«146970_j35948876268088_1_alg».proof.Proof.Ref.W06
import proofs.«146970_j35948876268088_1_alg».proof.Proof.Ref.W07
import proofs.«146970_j35948876268088_1_alg».proof.Proof.Ref.W08
import proofs.«146970_j35948876268088_1_alg».proof.Proof.Ref.W09
import proofs.«146970_j35948876268088_1_alg».proof.Proof.Ref.W10
import proofs.«146970_j35948876268088_1_alg».proof.Proof.Ref.W11
import proofs.«146970_j35948876268088_1_alg».proof.Proof.Ref.W12
import proofs.«146970_j35948876268088_1_alg».proof.Proof.Ref.W13
import proofs.«146970_j35948876268088_1_alg».proof.Proof.Ref.W14
import proofs.«146970_j35948876268088_1_alg».proof.Proof.Ref.W15
import proofs.«146970_j35948876268088_1_alg».proof.Proof.Ref.W16
import proofs.«146970_j35948876268088_1_alg».proof.Proof.Ref.W17
import proofs.«146970_j35948876268088_1_alg».proof.Proof.Ref.W18
import proofs.«146970_j35948876268088_1_alg».proof.Proof.Ref.W19
import proofs.«146970_j35948876268088_1_alg».proof.Proof.Ref.W20
import proofs.«146970_j35948876268088_1_alg».proof.Proof.Ref.W21
import proofs.«146970_j35948876268088_1_alg».proof.Proof.Ref.W22
import proofs.«146970_j35948876268088_1_alg».proof.Proof.Ref.W23
import proofs.«146970_j35948876268088_1_alg».proof.Proof.Ref.W24
import proofs.«146970_j35948876268088_1_alg».proof.Proof.Ref.W25
import proofs.«146970_j35948876268088_1_alg».proof.Proof.Ref.W26
import proofs.«146970_j35948876268088_1_alg».proof.Proof.Ref.W27
import proofs.«146970_j35948876268088_1_alg».proof.Proof.Ref.W28
import proofs.«146970_j35948876268088_1_alg».proof.Proof.Ref.W29
import proofs.«146970_j35948876268088_1_alg».proof.Proof.Ref.W30
import proofs.«146970_j35948876268088_1_alg».proof.Proof.Ref.W31
import proofs.«146970_j35948876268088_1_alg».proof.Proof.Ref.W32
import proofs.«146970_j35948876268088_1_alg».proof.Proof.Ref.W33
import proofs.«146970_j35948876268088_1_alg».proof.Proof.Ref.W34
import proofs.«146970_j35948876268088_1_alg».proof.Proof.Ref.W35
import proofs.«146970_j35948876268088_1_alg».proof.Proof.Ref.W36
import proofs.«146970_j35948876268088_1_alg».proof.Proof.Ref.W37
import proofs.«146970_j35948876268088_1_alg».proof.Proof.Ref.W38
import proofs.«146970_j35948876268088_1_alg».proof.Proof.Ref.W39
import proofs.«146970_j35948876268088_1_alg».proof.Proof.Ref.W40
import proofs.«146970_j35948876268088_1_alg».proof.Proof.Ref.W41
import proofs.«146970_j35948876268088_1_alg».proof.Proof.Ref.W42
import proofs.«146970_j35948876268088_1_alg».proof.Proof.Ref.W43
import proofs.«146970_j35948876268088_1_alg».proof.Proof.Ref.W44
import proofs.«146970_j35948876268088_1_alg».proof.Proof.Ref.W45

noncomputable section

namespace Cert.ReferenceIdeal.Hand

open Cert.ReferenceIdeal Idealize.ShloMosaic Idealize.ShloMosaic.TcCoe Idealize.SL.Sem Idealize.ShloMosaic.StableHlo

variable {F : FTy → Type} [FloatOps F]

variable [Facts]
open Facts₀ Facts

/-- @main's operations, in order: its windows' lines, concatenated (associated to the right). -/
def ops : List (HloOp τ sig (Elt F)) :=
  ops_part0 ++ (ops_part1 ++ (ops_part2 ++ (ops_part3 ++ (ops_part4 ++ (ops_part5 ++ (ops_part6 ++ (ops_part7 ++ (ops_part8 ++ (ops_part9 ++ (ops_part10 ++ (ops_part11 ++ (ops_part12 ++ (ops_part13 ++ (ops_part14 ++ (ops_part15 ++ (ops_part16 ++ (ops_part17 ++ (ops_part18 ++ (ops_part19 ++ (ops_part20 ++ (ops_part21 ++ (ops_part22 ++ (ops_part23 ++ (ops_part24 ++ (ops_part25 ++ (ops_part26 ++ (ops_part27 ++ (ops_part28 ++ (ops_part29 ++ (ops_part30 ++ (ops_part31 ++ (ops_part32 ++ (ops_part33 ++ (ops_part34 ++ (ops_part35 ++ (ops_part36 ++ (ops_part37 ++ (ops_part38 ++ (ops_part39 ++ (ops_part40 ++ (ops_part41 ++ (ops_part42 ++ (ops_part43 ++ (ops_part44 ++ (ops_part45)))))))))))))))))))))))))))))))))))))))))))))

/-- `ops`, unfolded one step: the windows' lines, still folded. -/
theorem ops_def : (ops : List (HloOp τ sig (Elt F))) =
  ops_part0 ++ (ops_part1 ++ (ops_part2 ++ (ops_part3 ++ (ops_part4 ++ (ops_part5 ++ (ops_part6 ++ (ops_part7 ++ (ops_part8 ++ (ops_part9 ++ (ops_part10 ++ (ops_part11 ++ (ops_part12 ++ (ops_part13 ++ (ops_part14 ++ (ops_part15 ++ (ops_part16 ++ (ops_part17 ++ (ops_part18 ++ (ops_part19 ++ (ops_part20 ++ (ops_part21 ++ (ops_part22 ++ (ops_part23 ++ (ops_part24 ++ (ops_part25 ++ (ops_part26 ++ (ops_part27 ++ (ops_part28 ++ (ops_part29 ++ (ops_part30 ++ (ops_part31 ++ (ops_part32 ++ (ops_part33 ++ (ops_part34 ++ (ops_part35 ++ (ops_part36 ++ (ops_part37 ++ (ops_part38 ++ (ops_part39 ++ (ops_part40 ++ (ops_part41 ++ (ops_part42 ++ (ops_part43 ++ (ops_part44 ++ (ops_part45))))))))))))))))))))))))))))))))))))))))))))) := rfl

/-- @main runs its windows in order, and each window is its line. -/
theorem main_eq (c : Dev nD) : main (F := F) c = StableHlo.seq ops := by
  simp only [main, ops_def, seq_append,
    main_part0_eq, main_part1_eq, main_part2_eq, main_part3_eq, main_part4_eq, main_part5_eq,
    main_part6_eq, main_part7_eq, main_part8_eq, main_part9_eq, main_part10_eq, main_part11_eq,
    main_part12_eq, main_part13_eq, main_part14_eq, main_part15_eq, main_part16_eq, main_part17_eq,
    main_part18_eq, main_part19_eq, main_part20_eq, main_part21_eq, main_part22_eq, main_part23_eq,
    main_part24_eq, main_part25_eq, main_part26_eq, main_part27_eq, main_part28_eq, main_part29_eq,
    main_part30_eq, main_part31_eq, main_part32_eq, main_part33_eq, main_part34_eq, main_part35_eq,
    main_part36_eq, main_part37_eq, main_part38_eq, main_part39_eq, main_part40_eq, main_part41_eq,
    main_part42_eq, main_part43_eq, main_part44_eq, main_part45_eq]

/-- Every operation of @main is good: window by window. -/
theorem ops_good : (ops : List (HloOp τ sig (Elt F))).Forall (Good 12) :=
  Good.append ops_part0_good (Good.append ops_part1_good (Good.append ops_part2_good (Good.append ops_part3_good (Good.append ops_part4_good (Good.append ops_part5_good (Good.append ops_part6_good (Good.append ops_part7_good (Good.append ops_part8_good (Good.append ops_part9_good (Good.append ops_part10_good (Good.append ops_part11_good (Good.append ops_part12_good (Good.append ops_part13_good (Good.append ops_part14_good (Good.append ops_part15_good (Good.append ops_part16_good (Good.append ops_part17_good (Good.append ops_part18_good (Good.append ops_part19_good (Good.append ops_part20_good (Good.append ops_part21_good (Good.append ops_part22_good (Good.append ops_part23_good (Good.append ops_part24_good (Good.append ops_part25_good (Good.append ops_part26_good (Good.append ops_part27_good (Good.append ops_part28_good (Good.append ops_part29_good (Good.append ops_part30_good (Good.append ops_part31_good (Good.append ops_part32_good (Good.append ops_part33_good (Good.append ops_part34_good (Good.append ops_part35_good (Good.append ops_part36_good (Good.append ops_part37_good (Good.append ops_part38_good (Good.append ops_part39_good (Good.append ops_part40_good (Good.append ops_part41_good (Good.append ops_part42_good (Good.append ops_part43_good (Good.append ops_part44_good (ops_part45_good)))))))))))))))))))))))))))))))))))))))))))))

/-- The signature scopes no TensorCore buffer: HBM and host buffers never are, and it has no other. -/
theorem scopedRefs_eq : (Finset.univ.filter fun b : Ref sig .tc => b.isScoped) = ∅ :=
  Finset.filter_eq_empty_iff.mpr fun b _ => by
    rcases b with ⟨sp, i, h⟩
    rcases sp with _ | _ | ⟨_ | _⟩ | _ <;> first | exact Bool.false_ne_true | exact i.elim0 | cases h

/-- It has no semaphore. -/
theorem scopedSems_eq : (Finset.univ.filter fun sm : SemLoc sig => sm.isScoped .tc) = ∅ := by decide

/-- From any memory with zero counters: every weakly fair execution of @main terminates, the result buffer at the
    operations' fold over the launch contents, each argument buffer as launched. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v2262) = StableHlo.after ops (launchContents m c) (Proc.devRef .tc main_v2262)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => ⟨h c main_v2262,
      (h c main_arg0).trans (after_keep ops_good _ (r := main_arg0) (by decide)),
      (h c main_arg1).trans (after_keep ops_good _ (r := main_arg1) (by decide)),
      (h c main_arg2).trans (after_keep ops_good _ (r := main_arg2) (by decide)),
      (h c main_arg3).trans (after_keep ops_good _ (r := main_arg3) (by decide)),
      (h c main_arg4).trans (after_keep ops_good _ (r := main_arg4) (by decide)),
      (h c main_arg5).trans (after_keep ops_good _ (r := main_arg5) (by decide)),
      (h c main_arg6).trans (after_keep ops_good _ (r := main_arg6) (by decide)),
      (h c main_arg7).trans (after_keep ops_good _ (r := main_arg7) (by decide)),
      (h c main_arg8).trans (after_keep ops_good _ (r := main_arg8) (by decide)),
      (h c main_arg9).trans (after_keep ops_good _ (r := main_arg9) (by decide)),
      (h c main_arg10).trans (after_keep ops_good _ (r := main_arg10) (by decide)),
      (h c main_arg11).trans (after_keep ops_good _ (r := main_arg11) (by decide))⟩)
    (run_seq scopedRefs_eq scopedSems_eq defs main (fun _ => ops) main_eq (fun _ => Good.forall_sub ops_good) m ρ
      (fun _ => Good.forall_fresh ops_good))

end Cert.ReferenceIdeal.Hand

end
-- ==== Proof.FrameRI.lean ====
/- The reference's frame: the run of its host operations in order, with the result dropped. -/
import proofs.«146970_j35948876268088_1_alg».proof.Defs
import proofs.«146970_j35948876268088_1_alg».proof.Proof.Gen.ReferenceIdeal
import proofs.«146970_j35948876268088_1_alg».proof.Proof.Gen.Pre_finite_inputs
import proofs.«146970_j35948876268088_1_alg».proof.Proof.Ref.Frame

noncomputable section

namespace Cert.Proof

open Idealize.ShloMosaic Idealize.SL.Sem

theorem frame_ri : Cert.frame_ReferenceIdeal (hReferenceIdeal := Cert.ReferenceIdeal.Gen.facts) (hPre_finite_inputs := Cert.Pre_finite_inputs.Gen.facts) := fun m ρ _ =>
  (θ_run (Cert.ReferenceIdeal.defs (F := Ideal)) _ _).mono (fun _ h c => (h c).2) (Cert.ReferenceIdeal.Hand.run (F := Ideal) m ρ)

end Cert.Proof

end
-- ==== Proof.KI.MatmulAt.lean ====
/-
  A plain matrix product into a zero accumulator, read at an index: at the ideal values a `tpu.matmul` whose
  dimension numbers contract the left operand's axis 1 with the right operand's axis 0 is, at (a, b), the sum over the
  contracted coordinate of the products of the entries.
-/
import Idealize.ShloMosaic.Lib.ValueIdx
import Idealize.ShloMosaic.PureOps.Ideal.Laws

noncomputable section

namespace Cert.KernelIdeal.Hand

open Idealize.ShloMosaic Idealize.ShloMosaic.ValueIdx
open scoped BigOperators

/-- Rows times columns: a product whose dimension numbers contract the left operand's axis 1 with the right
    operand's axis 0, accumulated into the zero splat, is at (a, b) the sum over the contracted coordinate of the
    products of the entries. At the ideal values. -/
theorem matmul_zero_apply {m k n : Nat} (w : DotDims.WF ⟨2, ![m, k]⟩ ⟨2, ![k, n]⟩ ⟨2, ![m, n]⟩ [1] [0] [0] [1] [] [])
    (prec : Option ContractPrecision) (A : FVec Ideal ⟨2, ![m, k]⟩ .f32) (B : FVec Ideal ⟨2, ![k, n]⟩ .f32)
    (a : Fin m) (b : Fin n) :
    matmul (⟨[1], [0], [0], [1], [], [], w⟩ : DotDims _ _ _) prec A B (constant (F := Ideal) ⟨2, ![m, n]⟩ .f32 0x00000000#32) (ix2 a b)
      = ∑ c : Fin k, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.KernelIdeal.Hand

end
-- ==== Proof.KI.Value0.lean ====
/-
  Region 0 read as ONE matrix product. The region's body leaves in the output window's staging buffer the product of
  the two input blocks (`out0_2`); the input windows' blocks at a grid point are the row band of the left array and
  the column band of the right array that the output's block names; the output's blocks tile its array. So after all
  the write-backs the output array is, index by index, the sum over the contracted coordinate of the products of the
  two argument arrays' entries. At the ideal values.
-/
import proofs.«146970_j35948876268088_1_alg».proof.Proof.KI.Body0
import proofs.«146970_j35948876268088_1_alg».proof.Proof.KI.MatmulAt
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.RA Idealize.SL.Sem
open Idealize.ShloMosaic.Pipeline (Dat Cfg Window)
open scoped BigOperators

/-! ## Region 0's payload at an index -/

/-- The payload at (a, b): the product of the two loaded blocks there. -/
theorem pay0_apply (x0 x1 : Vec Ideal S256x256 .f32) (a b : Fin 256) :
    k0_pay1 x0 x1 (ix2 a b) = ∑ k : Fin 256, x0 (ix2 a k) * x1 (ix2 k b) := by
  unfold k0_pay1
  rw [shapeCast_self, shapeCast_self]
  exact matmul_zero_apply _ _ x0 x1 a b

/-- The same at any index of the block, through its two coordinates. -/
theorem pay0_apply' (x0 x1 : Vec Ideal S256x256 .f32) (j : S256x256.Idx) :
    k0_pay1 x0 x1 j = ∑ k : Fin 256, x0 (ix2 (j 0) k) * x1 (ix2 k (j 1)) := by
  obtain ⟨a, b, rfl⟩ : ∃ (a : Fin 256) (b : Fin 256), j = ix2 a b := ⟨j 0, j 1, eq_ix2 j⟩
  exact pay0_apply x0 x1 a b

/-! ## The whole-array function -/

/-- The product of a 2048×256 array by a 256×2048 array, index by index. -/
def prod0 (a0 : S2048x256.Idx → EReal) (a1 : S256x2048.Idx → EReal) : S2048x2048.Idx → EReal :=
  fun i => ∑ k : Fin 256, a0 (ix2 (i 0) k) * a1 (ix2 k (i 1))

theorem prod0_apply (a0 : S2048x256.Idx → EReal) (a1 : S256x2048.Idx → EReal) (r s : Fin 2048) :
    prod0 a0 a1 (ix2 r s) = ∑ k : Fin 256, a0 (ix2 r k) * a1 (ix2 k s) := rfl

/-! ## The printed index maps, decided over the grid -/

theorem hz0 : (![0, 0] : Fin 2 → Nat) = fun _ => 0 := funext fun a => by fin_cases a <;> rfl

/-- The left input's block is the output block's row band, the right input's its column band; the output's block
    indices stay in their ranges. -/
theorem idx_facts0 : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = win0_2.index t (1 : Fin 2)
    ∧ win0_2.index t (0 : Fin 2) ≤ 7 ∧ win0_2.index t (1 : Fin 2) ≤ 7 :=
  (by decide +kernel : ∀ t : Fin grid0.N, _)

/-- Every block of the output array is some point's. -/
theorem idx_onto0 : ∀ (q0 : Fin 8) (q1 : Fin 8), ∃ t : Fin cfg0.N, win0_2.index t = ![q0.val, q1.val] :=
  (by decide +kernel : ∀ (q0 : Fin 8) (q1 : Fin 8), ∃ t : Fin grid0.N, win0_2.index t = ![q0.val, q1.val])

/-! ## What each point writes back, and the array after the run -/

section Region
variable (V : (c : Dev nD) → (b : Ref sig .tc) → Buf (Elt Ideal) ((c : Thread nD τ).loc b))
variable (q : Fin cfg0.W → PosShare TreeShare)

/-- The two argument arrays as the region finds them, at their literal types. -/
abbrev lhs0 (c : Dev nD) : S2048x256.Idx → EReal := V c main_v1
abbrev rhs0 (c : Dev nD) : S256x2048.Idx → EReal := V c main_v4

/-- WHAT POINT `t` WRITES BACK is block `t` of the product of the two argument arrays as the region finds them. -/
theorem flushed0_eq (c : Dev nD) (t : Fin cfg0.N) :
    (dat0 (F := Ideal) V q c).flushed 2 t
      = ((cfg0.win 2).blk t).view.read (Elt Ideal) (prod0 (lhs0 V c) (rhs0 V c)) := by
  show (cfg0.win 2).cut (grid0.coords t) ((dat0 (F := Ideal) V q c).after 2 t) = _
  rw [after0_2]
  unfold out0_2
  rw [View.canon_unit_zero hz0]
  simp only [View.ld_unit_zero (S := S256x256) hz0]
  obtain ⟨e0, e1, e2, e3, e4, e5⟩ := idx_facts0 t
  funext j
  refine (pay0_apply' _ _ j).trans ?_
  show ∑ k : Fin 256, lhs0 V c (((cfg0.win 0).blk t).view.emb (ix2 (j 0) k)) * rhs0 V c (((cfg0.win 1).blk t).view.emb (ix2 k (j 1)))
     = ∑ k : Fin 256, lhs0 V c (ix2 ((((cfg0.win 2).blk t).view.emb j) 0) k) * rhs0 V c (ix2 k ((((cfg0.win 2).blk t).view.emb j) 1))
  refine Finset.sum_congr rfl fun k _ => ?_
  have h0 : ((cfg0.win 0).blk t).view.emb (ix2 (j 0) k) = ix2 ((((cfg0.win 2).blk t).view.emb j) 0) k := by
    funext a; apply Fin.ext
    match a with
    | ⟨0, _⟩ => show win0_0.index t (0 : Fin 2) * 256 + 1 * (j 0).val = win0_2.index t (0 : Fin 2) * 256 + 1 * (j 0).val; omega
    | ⟨1, _⟩ => show win0_0.index t (1 : Fin 2) * 256 + 1 * k.val = k.val; omega
  have h1 : ((cfg0.win 1).blk t).view.emb (ix2 k (j 1)) = ix2 k ((((cfg0.win 2).blk t).view.emb j) 1) := by
    funext a; apply Fin.ext
    match a with
    | ⟨0, _⟩ => show win0_1.index t (0 : Fin 2) * 256 + 1 * k.val = k.val; omega
    | ⟨1, _⟩ => show win0_1.index t (1 : Fin 2) * 256 + 1 * (j 1).val = win0_2.index t (1 : Fin 2) * 256 + 1 * (j 1).val; omega
  exact congrArg₂ (· * ·) (congrArg (lhs0 V c) h0) (congrArg (rhs0 V c) h1)

/-- An index of the array is in point `t`'s block iff each coordinate is in the block's range on its axis. -/
theorem mem_blk0 (t : Fin cfg0.N) (i : S2048x2048.Idx) :
    i ∈ ((cfg0.win 2).blk t).view.set ↔ ∀ a : Fin 2, win0_2.index t a * S256x256.size a ≤ (i a).val ∧ (i a).val < win0_2.index t a * S256x256.size a + S256x256.size a := by
  show i ∈ ((View.whole main_v5).slice (win0_2.rect t)).set ↔ _
  rw [View.set_slice_whole, Rect.mem_set_unit]
  exact Iff.rfl

/-- The output's blocks tile its array: the point that covers (r, s) is the one of block (r / 256, s / 256). -/
theorem cover0 (i : S2048x2048.Idx) :
    ∃ t : Fin cfg0.N, (cfg0.win 2).flush t = true ∧ i ∈ ((cfg0.win 2).blk t).view.set := by
  have hi0 : (i 0).val < 2048 := (i 0).isLt
  have hi1 : (i 1).val < 2048 := (i 1).isLt
  obtain ⟨t, ht⟩ := idx_onto0 ⟨(i 0).val / 256, by omega⟩ ⟨(i 1).val / 256, by omega⟩
  have q0 : win0_2.index t (0 : Fin 2) = (i 0).val / 256 := congrFun ht 0
  have q1 : win0_2.index t (1 : Fin 2) = (i 1).val / 256 := congrFun ht 1
  refine ⟨t, flush0_2 t, ?_⟩
  rw [mem_blk0]
  intro a
  match a with
  | ⟨0, _⟩ => show win0_2.index t (0 : Fin 2) * 256 ≤ (i 0).val ∧ (i 0).val < win0_2.index t (0 : Fin 2) * 256 + 256; omega
  | ⟨1, _⟩ => show win0_2.index t (1 : Fin 2) * 256 ≤ (i 1).val ∧ (i 1).val < win0_2.index t (1 : Fin 2) * 256 + 256; omega

/-- THE ARRAY after the run: the product of the two argument arrays, as ONE function of them. -/
theorem arrAt0_out (c : Dev nD) :
    (dat0 (F := Ideal) V q c).arrAt 2 cfg0.N = prod0 (lhs0 V c) (rhs0 V c) :=
  (dat0 (F := Ideal) V q c).arrAt_eq_of_cover 2 (prod0 (lhs0 V c) (rhs0 V c)) (fun t _ => flushed0_eq V q c t) cover0

end Region

end Cert.KernelIdeal.Hand

end
-- ==== Proof.KI.Value1.lean ====
/-
  Region 1 read as ONE matrix product. The region's body leaves in the output window's staging buffer the product of
  the two input blocks (`out1_2`); both input windows are on the same array: at a grid point the left block is its
  row band and the right block its column band that the output's block names; the output's blocks tile its array.
  So after all the write-backs the output array is, index by index, the sum over the contracted coordinate of the
  products of the argument array's entries, row by column. At the ideal values.
-/
import proofs.«146970_j35948876268088_1_alg».proof.Proof.KI.Body1
import proofs.«146970_j35948876268088_1_alg».proof.Proof.KI.MatmulAt
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.RA Idealize.SL.Sem
open Idealize.ShloMosaic.Pipeline (Dat Cfg Window)
open scoped BigOperators

/-! ## Region 1's payload at an index -/

/-- The payload at (a, b): the product of the two loaded blocks there. -/
theorem pay1_apply (x0 : Vec Ideal S256x2048 .f32) (x1 : Vec Ideal S2048x256 .f32) (a b : Fin 256) :
    k1_pay1 x0 x1 (ix2 a b) = ∑ k : Fin 2048, x0 (ix2 a k) * x1 (ix2 k b) := by
  unfold k1_pay1
  rw [shapeCast_self, shapeCast_self]
  exact matmul_zero_apply _ _ x0 x1 a b

/-- The same at any index of the block, through its two coordinates. -/
theorem pay1_apply' (x0 : Vec Ideal S256x2048 .f32) (x1 : Vec Ideal S2048x256 .f32) (j : S256x256.Idx) :
    k1_pay1 x0 x1 j = ∑ k : Fin 2048, x0 (ix2 (j 0) k) * x1 (ix2 k (j 1)) := by
  obtain ⟨a, b, rfl⟩ : ∃ (a : Fin 256) (b : Fin 256), j = ix2 a b := ⟨j 0, j 1, eq_ix2 j⟩
  exact pay1_apply x0 x1 a b

/-! ## The whole-array function -/

/-- The product of two 2048×2048 arrays, index by index. -/
def prod1 (a0 : S2048x2048.Idx → EReal) (a1 : S2048x2048.Idx → EReal) : S2048x2048.Idx → EReal :=
  fun i => ∑ k : Fin 2048, a0 (ix2 (i 0) k) * a1 (ix2 k (i 1))

theorem prod1_apply (a0 : S2048x2048.Idx → EReal) (a1 : S2048x2048.Idx → EReal) (r s : Fin 2048) :
    prod1 a0 a1 (ix2 r s) = ∑ k : Fin 2048, a0 (ix2 r k) * a1 (ix2 k s) := rfl

/-! ## The printed index maps, decided over the grid -/

theorem hz1 : (![0, 0] : Fin 2 → Nat) = fun _ => 0 := funext fun a => by fin_cases a <;> rfl

/-- The left input's block is the output block's row band, the right input's its column band; the output's block
    indices stay in their ranges. -/
theorem idx_facts1 : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = win1_2.index t (1 : Fin 2)
    ∧ win1_2.index t (0 : Fin 2) ≤ 7 ∧ win1_2.index t (1 : Fin 2) ≤ 7 :=
  (by decide +kernel : ∀ t : Fin grid1.N, _)

/-- Every block of the output array is some point's. -/
theorem idx_onto1 : ∀ (q0 : Fin 8) (q1 : Fin 8), ∃ t : Fin cfg1.N, win1_2.index t = ![q0.val, q1.val] :=
  (by decide +kernel : ∀ (q0 : Fin 8) (q1 : Fin 8), ∃ t : Fin grid1.N, win1_2.index t = ![q0.val, q1.val])

/-! ## What each point writes back, and the array after the run -/

section Region
variable (V : (c : Dev nD) → (b : Ref sig .tc) → Buf (Elt Ideal) ((c : Thread nD τ).loc b))
variable (q : Fin cfg1.W → PosShare TreeShare)

/-- The argument array (both windows read it) as the region finds it, at its literal type. -/
abbrev arg1 (c : Dev nD) : S2048x2048.Idx → EReal := V c main_v20

/-- WHAT POINT `t` WRITES BACK is block `t` of the product of the argument array with itself as the region finds it. -/
theorem flushed1_eq (c : Dev nD) (t : Fin cfg1.N) :
    (dat1 (F := Ideal) V q c).flushed 2 t
      = ((cfg1.win 2).blk t).view.read (Elt Ideal) (prod1 (arg1 V c) (arg1 V c)) := by
  show (cfg1.win 2).cut (grid1.coords t) ((dat1 (F := Ideal) V q c).after 2 t) = _
  rw [after1_2]
  unfold out1_2
  rw [View.canon_unit_zero hz1]
  simp only [View.ld_unit_zero (S := S256x2048) hz1, View.ld_unit_zero (S := S2048x256) hz1]
  obtain ⟨e0, e1, e2, e3, e4, e5⟩ := idx_facts1 t
  funext j
  refine (pay1_apply' _ _ j).trans ?_
  show ∑ k : Fin 2048, arg1 V c (((cfg1.win 0).blk t).view.emb (ix2 (j 0) k)) * arg1 V c (((cfg1.win 1).blk t).view.emb (ix2 k (j 1)))
     = ∑ k : Fin 2048, arg1 V c (ix2 ((((cfg1.win 2).blk t).view.emb j) 0) k) * arg1 V c (ix2 k ((((cfg1.win 2).blk t).view.emb j) 1))
  refine Finset.sum_congr rfl fun k _ => ?_
  have h0 : ((cfg1.win 0).blk t).view.emb (ix2 (j 0) k) = ix2 ((((cfg1.win 2).blk t).view.emb j) 0) k := by
    funext a; apply Fin.ext
    match a with
    | ⟨0, _⟩ => show win1_0.index t (0 : Fin 2) * 256 + 1 * (j 0).val = win1_2.index t (0 : Fin 2) * 256 + 1 * (j 0).val; omega
    | ⟨1, _⟩ => show win1_0.index t (1 : Fin 2) * 2048 + 1 * k.val = k.val; omega
  have h1 : ((cfg1.win 1).blk t).view.emb (ix2 k (j 1)) = ix2 k ((((cfg1.win 2).blk t).view.emb j) 1) := by
    funext a; apply Fin.ext
    match a with
    | ⟨0, _⟩ => show win1_1.index t (0 : Fin 2) * 2048 + 1 * k.val = k.val; omega
    | ⟨1, _⟩ => show win1_1.index t (1 : Fin 2) * 256 + 1 * (j 1).val = win1_2.index t (1 : Fin 2) * 256 + 1 * (j 1).val; omega
  exact congrArg₂ (· * ·) (congrArg (arg1 V c) h0) (congrArg (arg1 V c) h1)

/-- An index of the array is in point `t`'s block iff each coordinate is in the block's range on its axis. -/
theorem mem_blk1 (t : Fin cfg1.N) (i : S2048x2048.Idx) :
    i ∈ ((cfg1.win 2).blk t).view.set ↔ ∀ a : Fin 2, win1_2.index t a * S256x256.size a ≤ (i a).val ∧ (i a).val < win1_2.index t a * S256x256.size a + S256x256.size a := by
  show i ∈ ((View.whole main_v21).slice (win1_2.rect t)).set ↔ _
  rw [View.set_slice_whole, Rect.mem_set_unit]
  exact Iff.rfl

/-- The output's blocks tile its array: the point that covers (r, s) is the one of block (r / 256, s / 256). -/
theorem cover1 (i : S2048x2048.Idx) :
    ∃ t : Fin cfg1.N, (cfg1.win 2).flush t = true ∧ i ∈ ((cfg1.win 2).blk t).view.set := by
  have hi0 : (i 0).val < 2048 := (i 0).isLt
  have hi1 : (i 1).val < 2048 := (i 1).isLt
  obtain ⟨t, ht⟩ := idx_onto1 ⟨(i 0).val / 256, by omega⟩ ⟨(i 1).val / 256, by omega⟩
  have q0 : win1_2.index t (0 : Fin 2) = (i 0).val / 256 := congrFun ht 0
  have q1 : win1_2.index t (1 : Fin 2) = (i 1).val / 256 := congrFun ht 1
  refine ⟨t, flush1_2 t, ?_⟩
  rw [mem_blk1]
  intro a
  match a with
  | ⟨0, _⟩ => show win1_2.index t (0 : Fin 2) * 256 ≤ (i 0).val ∧ (i 0).val < win1_2.index t (0 : Fin 2) * 256 + 256; omega
  | ⟨1, _⟩ => show win1_2.index t (1 : Fin 2) * 256 ≤ (i 1).val ∧ (i 1).val < win1_2.index t (1 : Fin 2) * 256 + 256; omega

/-- THE ARRAY after the run: the product of the argument array with itself, as ONE function of it. -/
theorem arrAt1_out (c : Dev nD) :
    (dat1 (F := Ideal) V q c).arrAt 2 cfg1.N = prod1 (arg1 V c) (arg1 V c) :=
  (dat1 (F := Ideal) V q c).arrAt_eq_of_cover 2 (prod1 (arg1 V c) (arg1 V c)) (fun t _ => flushed1_eq V q c t) cover1

end Region

end Cert.KernelIdeal.Hand

end
-- ==== Proof.KI.Value2.lean ====
/-
  Region 2 read as ONE matrix product. The region's body leaves in the output window's staging buffer the product of
  the two input blocks (`out2_2`); at a grid point the left window's block is the row band of the left array that
  the output's block names, and the right window's block is the whole right array (the grid has one column of
  blocks); the output's blocks tile its array. So after all the write-backs the output array is, index by index, the
  sum over the contracted coordinate of the products of the two argument arrays' entries. At the ideal values.
-/
import proofs.«146970_j35948876268088_1_alg».proof.Proof.KI.Body2
import proofs.«146970_j35948876268088_1_alg».proof.Proof.KI.MatmulAt
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.RA Idealize.SL.Sem
open Idealize.ShloMosaic.Pipeline (Dat Cfg Window)
open scoped BigOperators

/-! ## Region 2's payload at an index -/

/-- The payload at (a, b): the product of the two loaded blocks there. -/
theorem pay2_apply (x0 : Vec Ideal S256x2048 .f32) (x1 : Vec Ideal S2048x256 .f32) (a b : Fin 256) :
    k2_pay1 x0 x1 (ix2 a b) = ∑ k : Fin 2048, x0 (ix2 a k) * x1 (ix2 k b) := by
  unfold k2_pay1
  rw [shapeCast_self, shapeCast_self]
  exact matmul_zero_apply _ _ x0 x1 a b

/-- The same at any index of the block, through its two coordinates. -/
theorem pay2_apply' (x0 : Vec Ideal S256x2048 .f32) (x1 : Vec Ideal S2048x256 .f32) (j : S256x256.Idx) :
    k2_pay1 x0 x1 j = ∑ k : Fin 2048, x0 (ix2 (j 0) k) * x1 (ix2 k (j 1)) := by
  obtain ⟨a, b, rfl⟩ : ∃ (a : Fin 256) (b : Fin 256), j = ix2 a b := ⟨j 0, j 1, eq_ix2 j⟩
  exact pay2_apply x0 x1 a b

/-! ## The whole-array function -/

/-- The product of a 2048×2048 array by a 2048×256 array, index by index. -/
def prod2 (a0 : S2048x2048.Idx → EReal) (a1 : S2048x256.Idx → EReal) : S2048x256.Idx → EReal :=
  fun i => ∑ k : Fin 2048, a0 (ix2 (i 0) k) * a1 (ix2 k (i 1))

theorem prod2_apply (a0 : S2048x2048.Idx → EReal) (a1 : S2048x256.Idx → EReal) (r : Fin 2048) (s : Fin 256) :
    prod2 a0 a1 (ix2 r s) = ∑ k : Fin 2048, a0 (ix2 r k) * a1 (ix2 k s) := rfl

/-! ## The printed index maps, decided over the grid -/

theorem hz2 : (![0, 0] : Fin 2 → Nat) = fun _ => 0 := funext fun a => by fin_cases a <;> rfl

/-- The left input's block is the output block's row band, the right input's its column band (the only one); the
    output's block indices stay in their ranges. -/
theorem idx_facts2 : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = win2_2.index t (1 : Fin 2)
    ∧ win2_2.index t (0 : Fin 2) ≤ 7 ∧ win2_2.index t (1 : Fin 2) = 0 :=
  (by decide +kernel : ∀ t : Fin grid2.N, _)

/-- Every block of the output array is some point's. -/
theorem idx_onto2 : ∀ (q0 : Fin 8) (q1 : Fin 1), ∃ t : Fin cfg2.N, win2_2.index t = ![q0.val, q1.val] :=
  (by decide +kernel : ∀ (q0 : Fin 8) (q1 : Fin 1), ∃ t : Fin grid2.N, win2_2.index t = ![q0.val, q1.val])

/-! ## What each point writes back, and the array after the run -/

section Region
variable (V : (c : Dev nD) → (b : Ref sig .tc) → Buf (Elt Ideal) ((c : Thread nD τ).loc b))
variable (q : Fin cfg2.W → PosShare TreeShare)

/-- The two argument arrays as the region finds them, at their literal types. -/
abbrev lhs2 (c : Dev nD) : S2048x2048.Idx → EReal := V c main_v24
abbrev rhs2 (c : Dev nD) : S2048x256.Idx → EReal := V c main_v33

/-- WHAT POINT `t` WRITES BACK is block `t` of the product of the two argument arrays as the region finds them. -/
theorem flushed2_eq (c : Dev nD) (t : Fin cfg2.N) :
    (dat2 (F := Ideal) V q c).flushed 2 t
      = ((cfg2.win 2).blk t).view.read (Elt Ideal) (prod2 (lhs2 V c) (rhs2 V c)) := by
  show (cfg2.win 2).cut (grid2.coords t) ((dat2 (F := Ideal) V q c).after 2 t) = _
  rw [after2_2]
  unfold out2_2
  rw [View.canon_unit_zero hz2]
  simp only [View.ld_unit_zero (S := S256x2048) hz2, View.ld_unit_zero (S := S2048x256) hz2]
  obtain ⟨e0, e1, e2, e3, e4, e5⟩ := idx_facts2 t
  funext j
  refine (pay2_apply' _ _ j).trans ?_
  show ∑ k : Fin 2048, lhs2 V c (((cfg2.win 0).blk t).view.emb (ix2 (j 0) k)) * rhs2 V c (((cfg2.win 1).blk t).view.emb (ix2 k (j 1)))
     = ∑ k : Fin 2048, lhs2 V c (ix2 ((((cfg2.win 2).blk t).view.emb j) 0) k) * rhs2 V c (ix2 k ((((cfg2.win 2).blk t).view.emb j) 1))
  refine Finset.sum_congr rfl fun k _ => ?_
  have h0 : ((cfg2.win 0).blk t).view.emb (ix2 (j 0) k) = ix2 ((((cfg2.win 2).blk t).view.emb j) 0) k := by
    funext a; apply Fin.ext
    match a with
    | ⟨0, _⟩ => show win2_0.index t (0 : Fin 2) * 256 + 1 * (j 0).val = win2_2.index t (0 : Fin 2) * 256 + 1 * (j 0).val; omega
    | ⟨1, _⟩ => show win2_0.index t (1 : Fin 2) * 2048 + 1 * k.val = k.val; omega
  have h1 : ((cfg2.win 1).blk t).view.emb (ix2 k (j 1)) = ix2 k ((((cfg2.win 2).blk t).view.emb j) 1) := by
    funext a; apply Fin.ext
    match a with
    | ⟨0, _⟩ => show win2_1.index t (0 : Fin 2) * 2048 + 1 * k.val = k.val; omega
    | ⟨1, _⟩ => show win2_1.index t (1 : Fin 2) * 256 + 1 * (j 1).val = win2_2.index t (1 : Fin 2) * 256 + 1 * (j 1).val; omega
  exact congrArg₂ (· * ·) (congrArg (lhs2 V c) h0) (congrArg (rhs2 V c) h1)

/-- An index of the array is in point `t`'s block iff each coordinate is in the block's range on its axis. -/
theorem mem_blk2 (t : Fin cfg2.N) (i : S2048x256.Idx) :
    i ∈ ((cfg2.win 2).blk t).view.set ↔ ∀ a : Fin 2, win2_2.index t a * S256x256.size a ≤ (i a).val ∧ (i a).val < win2_2.index t a * S256x256.size a + S256x256.size a := by
  show i ∈ ((View.whole main_v34).slice (win2_2.rect t)).set ↔ _
  rw [View.set_slice_whole, Rect.mem_set_unit]
  exact Iff.rfl

/-- The output's blocks tile its array: the point that covers (r, s) is the one of block (r / 256, 0). -/
theorem cover2 (i : S2048x256.Idx) :
    ∃ t : Fin cfg2.N, (cfg2.win 2).flush t = true ∧ i ∈ ((cfg2.win 2).blk t).view.set := by
  have hi0 : (i 0).val < 2048 := (i 0).isLt
  have hi1 : (i 1).val < 256 := (i 1).isLt
  obtain ⟨t, ht⟩ := idx_onto2 ⟨(i 0).val / 256, by omega⟩ ⟨(i 1).val / 256, by omega⟩
  have q0 : win2_2.index t (0 : Fin 2) = (i 0).val / 256 := congrFun ht 0
  have q1 : win2_2.index t (1 : Fin 2) = (i 1).val / 256 := congrFun ht 1
  refine ⟨t, flush2_2 t, ?_⟩
  rw [mem_blk2]
  intro a
  match a with
  | ⟨0, _⟩ => show win2_2.index t (0 : Fin 2) * 256 ≤ (i 0).val ∧ (i 0).val < win2_2.index t (0 : Fin 2) * 256 + 256; omega
  | ⟨1, _⟩ => show win2_2.index t (1 : Fin 2) * 256 ≤ (i 1).val ∧ (i 1).val < win2_2.index t (1 : Fin 2) * 256 + 256; omega

/-- THE ARRAY after the run: the product of the two argument arrays, as ONE function of them. -/
theorem arrAt2_out (c : Dev nD) :
    (dat2 (F := Ideal) V q c).arrAt 2 cfg2.N = prod2 (lhs2 V c) (rhs2 V c) :=
  (dat2 (F := Ideal) V q c).arrAt_eq_of_cover 2 (prod2 (lhs2 V c) (rhs2 V c)) (fun t _ => flushed2_eq V q c t) cover2

end Region

end Cert.KernelIdeal.Hand

end
-- ==== Proof.KI.Value3.lean ====
/-
  Region 3 read as ONE matrix product. The region's body leaves in the output window's staging buffer the product of
  the two input blocks (`out3_2`); at a grid point the left window's block is the row band of the left array that
  the output's block names, and the right window's block is the whole right array (the grid has one column of
  blocks); the output's blocks tile its array. So after all the write-backs the output array is, index by index, the
  sum over the contracted coordinate of the products of the two argument arrays' entries. At the ideal values.
-/
import proofs.«146970_j35948876268088_1_alg».proof.Proof.KI.Body3
import proofs.«146970_j35948876268088_1_alg».proof.Proof.KI.MatmulAt
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.RA Idealize.SL.Sem
open Idealize.ShloMosaic.Pipeline (Dat Cfg Window)
open scoped BigOperators

/-! ## Region 3's payload at an index -/

/-- The payload at (a, b): the product of the two loaded blocks there. -/
theorem pay3_apply (x0 : Vec Ideal S256x256 .f32) (x1 : Vec Ideal S256x256 .f32) (a b : Fin 256) :
    k3_pay1 x0 x1 (ix2 a b) = ∑ k : Fin 256, x0 (ix2 a k) * x1 (ix2 k b) := by
  unfold k3_pay1
  rw [shapeCast_self]
  exact matmul_zero_apply _ _ x0 x1 a b

/-- The same at any index of the block, through its two coordinates. -/
theorem pay3_apply' (x0 : Vec Ideal S256x256 .f32) (x1 : Vec Ideal S256x256 .f32) (j : S256x256.Idx) :
    k3_pay1 x0 x1 j = ∑ k : Fin 256, x0 (ix2 (j 0) k) * x1 (ix2 k (j 1)) := by
  obtain ⟨a, b, rfl⟩ : ∃ (a : Fin 256) (b : Fin 256), j = ix2 a b := ⟨j 0, j 1, eq_ix2 j⟩
  exact pay3_apply x0 x1 a b

/-! ## The whole-array function -/

/-- The product of a 2048×256 array by a 256×256 array, index by index. -/
def prod3 (a0 : S2048x256.Idx → EReal) (a1 : S256x256.Idx → EReal) : S2048x256.Idx → EReal :=
  fun i => ∑ k : Fin 256, a0 (ix2 (i 0) k) * a1 (ix2 k (i 1))

theorem prod3_apply (a0 : S2048x256.Idx → EReal) (a1 : S256x256.Idx → EReal) (r : Fin 2048) (s : Fin 256) :
    prod3 a0 a1 (ix2 r s) = ∑ k : Fin 256, a0 (ix2 r k) * a1 (ix2 k s) := rfl

/-! ## The printed index maps, decided over the grid -/

theorem hz3 : (![0, 0] : Fin 2 → Nat) = fun _ => 0 := funext fun a => by fin_cases a <;> rfl

/-- The left input's block is the output block's row band, the right input's its column band (the only one); the
    output's block indices stay in their ranges. -/
theorem idx_facts3 : ∀ t : Fin cfg3.N, win3_0.index t (0 : Fin 2) = win3_2.index t (0 : Fin 2)
    ∧ win3_0.index t (1 : Fin 2) = 0
    ∧ win3_1.index t (0 : Fin 2) = 0
    ∧ win3_1.index t (1 : Fin 2) = win3_2.index t (1 : Fin 2)
    ∧ win3_2.index t (0 : Fin 2) ≤ 7 ∧ win3_2.index t (1 : Fin 2) = 0 :=
  (by decide +kernel : ∀ t : Fin grid3.N, _)

/-- Every block of the output array is some point's. -/
theorem idx_onto3 : ∀ (q0 : Fin 8) (q1 : Fin 1), ∃ t : Fin cfg3.N, win3_2.index t = ![q0.val, q1.val] :=
  (by decide +kernel : ∀ (q0 : Fin 8) (q1 : Fin 1), ∃ t : Fin grid3.N, win3_2.index t = ![q0.val, q1.val])

/-! ## What each point writes back, and the array after the run -/

section Region
variable (V : (c : Dev nD) → (b : Ref sig .tc) → Buf (Elt Ideal) ((c : Thread nD τ).loc b))
variable (q : Fin cfg3.W → PosShare TreeShare)

/-- The two argument arrays as the region finds them, at their literal types. -/
abbrev lhs3 (c : Dev nD) : S2048x256.Idx → EReal := V c main_v37
abbrev rhs3 (c : Dev nD) : S256x256.Idx → EReal := V c main_arg1

/-- WHAT POINT `t` WRITES BACK is block `t` of the product of the two argument arrays as the region finds them. -/
theorem flushed3_eq (c : Dev nD) (t : Fin cfg3.N) :
    (dat3 (F := Ideal) V q c).flushed 2 t
      = ((cfg3.win 2).blk t).view.read (Elt Ideal) (prod3 (lhs3 V c) (rhs3 V c)) := by
  show (cfg3.win 2).cut (grid3.coords t) ((dat3 (F := Ideal) V q c).after 2 t) = _
  rw [after3_2]
  unfold out3_2
  rw [View.canon_unit_zero hz3]
  simp only [View.ld_unit_zero (S := S256x256) hz3]
  obtain ⟨e0, e1, e2, e3, e4, e5⟩ := idx_facts3 t
  funext j
  refine (pay3_apply' _ _ j).trans ?_
  show ∑ k : Fin 256, lhs3 V c (((cfg3.win 0).blk t).view.emb (ix2 (j 0) k)) * rhs3 V c (((cfg3.win 1).blk t).view.emb (ix2 k (j 1)))
     = ∑ k : Fin 256, lhs3 V c (ix2 ((((cfg3.win 2).blk t).view.emb j) 0) k) * rhs3 V c (ix2 k ((((cfg3.win 2).blk t).view.emb j) 1))
  refine Finset.sum_congr rfl fun k _ => ?_
  have h0 : ((cfg3.win 0).blk t).view.emb (ix2 (j 0) k) = ix2 ((((cfg3.win 2).blk t).view.emb j) 0) k := by
    funext a; apply Fin.ext
    match a with
    | ⟨0, _⟩ => show win3_0.index t (0 : Fin 2) * 256 + 1 * (j 0).val = win3_2.index t (0 : Fin 2) * 256 + 1 * (j 0).val; omega
    | ⟨1, _⟩ => show win3_0.index t (1 : Fin 2) * 256 + 1 * k.val = k.val; omega
  have h1 : ((cfg3.win 1).blk t).view.emb (ix2 k (j 1)) = ix2 k ((((cfg3.win 2).blk t).view.emb j) 1) := by
    funext a; apply Fin.ext
    match a with
    | ⟨0, _⟩ => show win3_1.index t (0 : Fin 2) * 256 + 1 * k.val = k.val; omega
    | ⟨1, _⟩ => show win3_1.index t (1 : Fin 2) * 256 + 1 * (j 1).val = win3_2.index t (1 : Fin 2) * 256 + 1 * (j 1).val; omega
  exact congrArg₂ (· * ·) (congrArg (lhs3 V c) h0) (congrArg (rhs3 V c) h1)

/-- An index of the array is in point `t`'s block iff each coordinate is in the block's range on its axis. -/
theorem mem_blk3 (t : Fin cfg3.N) (i : S2048x256.Idx) :
    i ∈ ((cfg3.win 2).blk t).view.set ↔ ∀ a : Fin 2, win3_2.index t a * S256x256.size a ≤ (i a).val ∧ (i a).val < win3_2.index t a * S256x256.size a + S256x256.size a := by
  show i ∈ ((View.whole main_v38).slice (win3_2.rect t)).set ↔ _
  rw [View.set_slice_whole, Rect.mem_set_unit]
  exact Iff.rfl

/-- The output's blocks tile its array: the point that covers (r, s) is the one of block (r / 256, 0). -/
theorem cover3 (i : S2048x256.Idx) :
    ∃ t : Fin cfg3.N, (cfg3.win 2).flush t = true ∧ i ∈ ((cfg3.win 2).blk t).view.set := by
  have hi0 : (i 0).val < 2048 := (i 0).isLt
  have hi1 : (i 1).val < 256 := (i 1).isLt
  obtain ⟨t, ht⟩ := idx_onto3 ⟨(i 0).val / 256, by omega⟩ ⟨(i 1).val / 256, by omega⟩
  have q0 : win3_2.index t (0 : Fin 2) = (i 0).val / 256 := congrFun ht 0
  have q1 : win3_2.index t (1 : Fin 2) = (i 1).val / 256 := congrFun ht 1
  refine ⟨t, flush3_2 t, ?_⟩
  rw [mem_blk3]
  intro a
  match a with
  | ⟨0, _⟩ => show win3_2.index t (0 : Fin 2) * 256 ≤ (i 0).val ∧ (i 0).val < win3_2.index t (0 : Fin 2) * 256 + 256; omega
  | ⟨1, _⟩ => show win3_2.index t (1 : Fin 2) * 256 ≤ (i 1).val ∧ (i 1).val < win3_2.index t (1 : Fin 2) * 256 + 256; omega

/-- THE ARRAY after the run: the product of the two argument arrays, as ONE function of them. -/
theorem arrAt3_out (c : Dev nD) :
    (dat3 (F := Ideal) V q c).arrAt 2 cfg3.N = prod3 (lhs3 V c) (rhs3 V c) :=
  (dat3 (F := Ideal) V q c).arrAt_eq_of_cover 2 (prod3 (lhs3 V c) (rhs3 V c)) (fun t _ => flushed3_eq V q c t) cover3

end Region

end Cert.KernelIdeal.Hand

end
-- ==== Proof.KI.Value4.lean ====
/-
  Region 4 read as ONE matrix product. The region's body leaves in the output window's staging buffer the product of
  the two input blocks (`out4_2`); at a grid point the left window's block is the row band of the left array that
  the output's block names, and the right window's block is the whole right array (the grid has one column of
  blocks); the output's blocks tile its array. So after all the write-backs the output array is, index by index, the
  sum over the contracted coordinate of the products of the two argument arrays' entries. At the ideal values.
-/
import proofs.«146970_j35948876268088_1_alg».proof.Proof.KI.Body4
import proofs.«146970_j35948876268088_1_alg».proof.Proof.KI.MatmulAt
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.RA Idealize.SL.Sem
open Idealize.ShloMosaic.Pipeline (Dat Cfg Window)
open scoped BigOperators

/-! ## Region 4's payload at an index -/

/-- The payload at (a, b): the product of the two loaded blocks there. -/
theorem pay4_apply (x0 : Vec Ideal S256x2048 .f32) (x1 : Vec Ideal S2048x256 .f32) (a b : Fin 256) :
    k4_pay1 x0 x1 (ix2 a b) = ∑ k : Fin 2048, x0 (ix2 a k) * x1 (ix2 k b) := by
  unfold k4_pay1
  rw [shapeCast_self, shapeCast_self]
  exact matmul_zero_apply _ _ x0 x1 a b

/-- The same at any index of the block, through its two coordinates. -/
theorem pay4_apply' (x0 : Vec Ideal S256x2048 .f32) (x1 : Vec Ideal S2048x256 .f32) (j : S256x256.Idx) :
    k4_pay1 x0 x1 j = ∑ k : Fin 2048, x0 (ix2 (j 0) k) * x1 (ix2 k (j 1)) := by
  obtain ⟨a, b, rfl⟩ : ∃ (a : Fin 256) (b : Fin 256), j = ix2 a b := ⟨j 0, j 1, eq_ix2 j⟩
  exact pay4_apply x0 x1 a b

/-! ## The whole-array function -/

/-- The product of a 2048×2048 array by a 2048×256 array, index by index. -/
def prod4 (a0 : S2048x2048.Idx → EReal) (a1 : S2048x256.Idx → EReal) : S2048x256.Idx → EReal :=
  fun i => ∑ k : Fin 2048, a0 (ix2 (i 0) k) * a1 (ix2 k (i 1))

theorem prod4_apply (a0 : S2048x2048.Idx → EReal) (a1 : S2048x256.Idx → EReal) (r : Fin 2048) (s : Fin 256) :
    prod4 a0 a1 (ix2 r s) = ∑ k : Fin 2048, a0 (ix2 r k) * a1 (ix2 k s) := rfl

/-! ## The printed index maps, decided over the grid -/

theorem hz4 : (![0, 0] : Fin 2 → Nat) = fun _ => 0 := funext fun a => by fin_cases a <;> rfl

/-- The left input's block is the output block's row band, the right input's its column band (the only one); the
    output's block indices stay in their ranges. -/
theorem idx_facts4 : ∀ t : Fin cfg4.N, win4_0.index t (0 : Fin 2) = win4_2.index t (0 : Fin 2)
    ∧ win4_0.index t (1 : Fin 2) = 0
    ∧ win4_1.index t (0 : Fin 2) = 0
    ∧ win4_1.index t (1 : Fin 2) = win4_2.index t (1 : Fin 2)
    ∧ win4_2.index t (0 : Fin 2) ≤ 7 ∧ win4_2.index t (1 : Fin 2) = 0 :=
  (by decide +kernel : ∀ t : Fin grid4.N, _)

/-- Every block of the output array is some point's. -/
theorem idx_onto4 : ∀ (q0 : Fin 8) (q1 : Fin 1), ∃ t : Fin cfg4.N, win4_2.index t = ![q0.val, q1.val] :=
  (by decide +kernel : ∀ (q0 : Fin 8) (q1 : Fin 1), ∃ t : Fin grid4.N, win4_2.index t = ![q0.val, q1.val])

/-! ## What each point writes back, and the array after the run -/

section Region
variable (V : (c : Dev nD) → (b : Ref sig .tc) → Buf (Elt Ideal) ((c : Thread nD τ).loc b))
variable (q : Fin cfg4.W → PosShare TreeShare)

/-- The two argument arrays as the region finds them, at their literal types. -/
abbrev lhs4 (c : Dev nD) : S2048x2048.Idx → EReal := V c main_v24
abbrev rhs4 (c : Dev nD) : S2048x256.Idx → EReal := V c main_v42

/-- WHAT POINT `t` WRITES BACK is block `t` of the product of the two argument arrays as the region finds them. -/
theorem flushed4_eq (c : Dev nD) (t : Fin cfg4.N) :
    (dat4 (F := Ideal) V q c).flushed 2 t
      = ((cfg4.win 2).blk t).view.read (Elt Ideal) (prod4 (lhs4 V c) (rhs4 V c)) := by
  show (cfg4.win 2).cut (grid4.coords t) ((dat4 (F := Ideal) V q c).after 2 t) = _
  rw [after4_2]
  unfold out4_2
  rw [View.canon_unit_zero hz4]
  simp only [View.ld_unit_zero (S := S256x2048) hz4, View.ld_unit_zero (S := S2048x256) hz4]
  obtain ⟨e0, e1, e2, e3, e4, e5⟩ := idx_facts4 t
  funext j
  refine (pay4_apply' _ _ j).trans ?_
  show ∑ k : Fin 2048, lhs4 V c (((cfg4.win 0).blk t).view.emb (ix2 (j 0) k)) * rhs4 V c (((cfg4.win 1).blk t).view.emb (ix2 k (j 1)))
     = ∑ k : Fin 2048, lhs4 V c (ix2 ((((cfg4.win 2).blk t).view.emb j) 0) k) * rhs4 V c (ix2 k ((((cfg4.win 2).blk t).view.emb j) 1))
  refine Finset.sum_congr rfl fun k _ => ?_
  have h0 : ((cfg4.win 0).blk t).view.emb (ix2 (j 0) k) = ix2 ((((cfg4.win 2).blk t).view.emb j) 0) k := by
    funext a; apply Fin.ext
    match a with
    | ⟨0, _⟩ => show win4_0.index t (0 : Fin 2) * 256 + 1 * (j 0).val = win4_2.index t (0 : Fin 2) * 256 + 1 * (j 0).val; omega
    | ⟨1, _⟩ => show win4_0.index t (1 : Fin 2) * 2048 + 1 * k.val = k.val; omega
  have h1 : ((cfg4.win 1).blk t).view.emb (ix2 k (j 1)) = ix2 k ((((cfg4.win 2).blk t).view.emb j) 1) := by
    funext a; apply Fin.ext
    match a with
    | ⟨0, _⟩ => show win4_1.index t (0 : Fin 2) * 2048 + 1 * k.val = k.val; omega
    | ⟨1, _⟩ => show win4_1.index t (1 : Fin 2) * 256 + 1 * (j 1).val = win4_2.index t (1 : Fin 2) * 256 + 1 * (j 1).val; omega
  exact congrArg₂ (· * ·) (congrArg (lhs4 V c) h0) (congrArg (rhs4 V c) h1)

/-- An index of the array is in point `t`'s block iff each coordinate is in the block's range on its axis. -/
theorem mem_blk4 (t : Fin cfg4.N) (i : S2048x256.Idx) :
    i ∈ ((cfg4.win 2).blk t).view.set ↔ ∀ a : Fin 2, win4_2.index t a * S256x256.size a ≤ (i a).val ∧ (i a).val < win4_2.index t a * S256x256.size a + S256x256.size a := by
  show i ∈ ((View.whole main_v43).slice (win4_2.rect t)).set ↔ _
  rw [View.set_slice_whole, Rect.mem_set_unit]
  exact Iff.rfl

/-- The output's blocks tile its array: the point that covers (r, s) is the one of block (r / 256, 0). -/
theorem cover4 (i : S2048x256.Idx) :
    ∃ t : Fin cfg4.N, (cfg4.win 2).flush t = true ∧ i ∈ ((cfg4.win 2).blk t).view.set := by
  have hi0 : (i 0).val < 2048 := (i 0).isLt
  have hi1 : (i 1).val < 256 := (i 1).isLt
  obtain ⟨t, ht⟩ := idx_onto4 ⟨(i 0).val / 256, by omega⟩ ⟨(i 1).val / 256, by omega⟩
  have q0 : win4_2.index t (0 : Fin 2) = (i 0).val / 256 := congrFun ht 0
  have q1 : win4_2.index t (1 : Fin 2) = (i 1).val / 256 := congrFun ht 1
  refine ⟨t, flush4_2 t, ?_⟩
  rw [mem_blk4]
  intro a
  match a with
  | ⟨0, _⟩ => show win4_2.index t (0 : Fin 2) * 256 ≤ (i 0).val ∧ (i 0).val < win4_2.index t (0 : Fin 2) * 256 + 256; omega
  | ⟨1, _⟩ => show win4_2.index t (1 : Fin 2) * 256 ≤ (i 1).val ∧ (i 1).val < win4_2.index t (1 : Fin 2) * 256 + 256; omega

/-- THE ARRAY after the run: the product of the two argument arrays, as ONE function of them. -/
theorem arrAt4_out (c : Dev nD) :
    (dat4 (F := Ideal) V q c).arrAt 2 cfg4.N = prod4 (lhs4 V c) (rhs4 V c) :=
  (dat4 (F := Ideal) V q c).arrAt_eq_of_cover 2 (prod4 (lhs4 V c) (rhs4 V c)) (fun t _ => flushed4_eq V q c t) cover4

end Region

end Cert.KernelIdeal.Hand

end
-- ==== Proof.KI.Value5.lean ====
/-
  Region 5 read as ONE matrix product. The region's body leaves in the output window's staging buffer the product of
  the two input blocks (`out5_2`); the input windows' blocks at a grid point are the row band of the left array and
  the column band of the right array that the output's block names; the output's blocks tile its array. So after all
  the write-backs the output array is, index by index, the sum over the contracted coordinate of the products of the
  two argument arrays' entries. At the ideal values.
-/
import proofs.«146970_j35948876268088_1_alg».proof.Proof.KI.Body5
import proofs.«146970_j35948876268088_1_alg».proof.Proof.KI.MatmulAt
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.RA Idealize.SL.Sem
open Idealize.ShloMosaic.Pipeline (Dat Cfg Window)
open scoped BigOperators

/-! ## Region 5's payload at an index -/

/-- The payload at (a, b): the product of the two loaded blocks there. -/
theorem pay5_apply (x0 x1 : Vec Ideal S256x256 .f32) (a b : Fin 256) :
    k5_pay1 x0 x1 (ix2 a b) = ∑ k : Fin 256, x0 (ix2 a k) * x1 (ix2 k b) := by
  unfold k5_pay1
  rw [shapeCast_self, shapeCast_self]
  exact matmul_zero_apply _ _ x0 x1 a b

/-- The same at any index of the block, through its two coordinates. -/
theorem pay5_apply' (x0 x1 : Vec Ideal S256x256 .f32) (j : S256x256.Idx) :
    k5_pay1 x0 x1 j = ∑ k : Fin 256, x0 (ix2 (j 0) k) * x1 (ix2 k (j 1)) := by
  obtain ⟨a, b, rfl⟩ : ∃ (a : Fin 256) (b : Fin 256), j = ix2 a b := ⟨j 0, j 1, eq_ix2 j⟩
  exact pay5_apply x0 x1 a b

/-! ## The whole-array function -/

/-- The product of a 2048×256 array by a 256×2048 array, index by index. -/
def prod5 (a0 : S2048x256.Idx → EReal) (a1 : S256x2048.Idx → EReal) : S2048x2048.Idx → EReal :=
  fun i => ∑ k : Fin 256, a0 (ix2 (i 0) k) * a1 (ix2 k (i 1))

theorem prod5_apply (a0 : S2048x256.Idx → EReal) (a1 : S256x2048.Idx → EReal) (r s : Fin 2048) :
    prod5 a0 a1 (ix2 r s) = ∑ k : Fin 256, a0 (ix2 r k) * a1 (ix2 k s) := rfl

/-! ## The printed index maps, decided over the grid -/

theorem hz5 : (![0, 0] : Fin 2 → Nat) = fun _ => 0 := funext fun a => by fin_cases a <;> rfl

/-- The left input's block is the output block's row band, the right input's its column band; the output's block
    indices stay in their ranges. -/
theorem idx_facts5 : ∀ t : Fin cfg5.N, win5_0.index t (0 : Fin 2) = win5_2.index t (0 : Fin 2)
    ∧ win5_0.index t (1 : Fin 2) = 0
    ∧ win5_1.index t (0 : Fin 2) = 0
    ∧ win5_1.index t (1 : Fin 2) = win5_2.index t (1 : Fin 2)
    ∧ win5_2.index t (0 : Fin 2) ≤ 7 ∧ win5_2.index t (1 : Fin 2) ≤ 7 :=
  (by decide +kernel : ∀ t : Fin grid5.N, _)

/-- Every block of the output array is some point's. -/
theorem idx_onto5 : ∀ (q0 : Fin 8) (q1 : Fin 8), ∃ t : Fin cfg5.N, win5_2.index t = ![q0.val, q1.val] :=
  (by decide +kernel : ∀ (q0 : Fin 8) (q1 : Fin 8), ∃ t : Fin grid5.N, win5_2.index t = ![q0.val, q1.val])

/-! ## What each point writes back, and the array after the run -/

section Region
variable (V : (c : Dev nD) → (b : Ref sig .tc) → Buf (Elt Ideal) ((c : Thread nD τ).loc b))
variable (q : Fin cfg5.W → PosShare TreeShare)

/-- The two argument arrays as the region finds them, at their literal types. -/
abbrev lhs5 (c : Dev nD) : S2048x256.Idx → EReal := V c main_v45
abbrev rhs5 (c : Dev nD) : S256x2048.Idx → EReal := V c main_v169

/-- WHAT POINT `t` WRITES BACK is block `t` of the product of the two argument arrays as the region finds them. -/
theorem flushed5_eq (c : Dev nD) (t : Fin cfg5.N) :
    (dat5 (F := Ideal) V q c).flushed 2 t
      = ((cfg5.win 2).blk t).view.read (Elt Ideal) (prod5 (lhs5 V c) (rhs5 V c)) := by
  show (cfg5.win 2).cut (grid5.coords t) ((dat5 (F := Ideal) V q c).after 2 t) = _
  rw [after5_2]
  unfold out5_2
  rw [View.canon_unit_zero hz5]
  simp only [View.ld_unit_zero (S := S256x256) hz5]
  obtain ⟨e0, e1, e2, e3, e4, e5⟩ := idx_facts5 t
  funext j
  refine (pay5_apply' _ _ j).trans ?_
  show ∑ k : Fin 256, lhs5 V c (((cfg5.win 0).blk t).view.emb (ix2 (j 0) k)) * rhs5 V c (((cfg5.win 1).blk t).view.emb (ix2 k (j 1)))
     = ∑ k : Fin 256, lhs5 V c (ix2 ((((cfg5.win 2).blk t).view.emb j) 0) k) * rhs5 V c (ix2 k ((((cfg5.win 2).blk t).view.emb j) 1))
  refine Finset.sum_congr rfl fun k _ => ?_
  have h0 : ((cfg5.win 0).blk t).view.emb (ix2 (j 0) k) = ix2 ((((cfg5.win 2).blk t).view.emb j) 0) k := by
    funext a; apply Fin.ext
    match a with
    | ⟨0, _⟩ => show win5_0.index t (0 : Fin 2) * 256 + 1 * (j 0).val = win5_2.index t (0 : Fin 2) * 256 + 1 * (j 0).val; omega
    | ⟨1, _⟩ => show win5_0.index t (1 : Fin 2) * 256 + 1 * k.val = k.val; omega
  have h1 : ((cfg5.win 1).blk t).view.emb (ix2 k (j 1)) = ix2 k ((((cfg5.win 2).blk t).view.emb j) 1) := by
    funext a; apply Fin.ext
    match a with
    | ⟨0, _⟩ => show win5_1.index t (0 : Fin 2) * 256 + 1 * k.val = k.val; omega
    | ⟨1, _⟩ => show win5_1.index t (1 : Fin 2) * 256 + 1 * (j 1).val = win5_2.index t (1 : Fin 2) * 256 + 1 * (j 1).val; omega
  exact congrArg₂ (· * ·) (congrArg (lhs5 V c) h0) (congrArg (rhs5 V c) h1)

/-- An index of the array is in point `t`'s block iff each coordinate is in the block's range on its axis. -/
theorem mem_blk5 (t : Fin cfg5.N) (i : S2048x2048.Idx) :
    i ∈ ((cfg5.win 2).blk t).view.set ↔ ∀ a : Fin 2, win5_2.index t a * S256x256.size a ≤ (i a).val ∧ (i a).val < win5_2.index t a * S256x256.size a + S256x256.size a := by
  show i ∈ ((View.whole main_v170).slice (win5_2.rect t)).set ↔ _
  rw [View.set_slice_whole, Rect.mem_set_unit]
  exact Iff.rfl

/-- The output's blocks tile its array: the point that covers (r, s) is the one of block (r / 256, s / 256). -/
theorem cover5 (i : S2048x2048.Idx) :
    ∃ t : Fin cfg5.N, (cfg5.win 2).flush t = true ∧ i ∈ ((cfg5.win 2).blk t).view.set := by
  have hi0 : (i 0).val < 2048 := (i 0).isLt
  have hi1 : (i 1).val < 2048 := (i 1).isLt
  obtain ⟨t, ht⟩ := idx_onto5 ⟨(i 0).val / 256, by omega⟩ ⟨(i 1).val / 256, by omega⟩
  have q0 : win5_2.index t (0 : Fin 2) = (i 0).val / 256 := congrFun ht 0
  have q1 : win5_2.index t (1 : Fin 2) = (i 1).val / 256 := congrFun ht 1
  refine ⟨t, flush5_2 t, ?_⟩
  rw [mem_blk5]
  intro a
  match a with
  | ⟨0, _⟩ => show win5_2.index t (0 : Fin 2) * 256 ≤ (i 0).val ∧ (i 0).val < win5_2.index t (0 : Fin 2) * 256 + 256; omega
  | ⟨1, _⟩ => show win5_2.index t (1 : Fin 2) * 256 ≤ (i 1).val ∧ (i 1).val < win5_2.index t (1 : Fin 2) * 256 + 256; omega

/-- THE ARRAY after the run: the product of the two argument arrays, as ONE function of them. -/
theorem arrAt5_out (c : Dev nD) :
    (dat5 (F := Ideal) V q c).arrAt 2 cfg5.N = prod5 (lhs5 V c) (rhs5 V c) :=
  (dat5 (F := Ideal) V q c).arrAt_eq_of_cover 2 (prod5 (lhs5 V c) (rhs5 V c)) (fun t _ => flushed5_eq V q c t) cover5

end Region

end Cert.KernelIdeal.Hand

end
-- ==== Proof.KI.Value6.lean ====
/-
  Region 6 read as ONE matrix product. The region's body leaves in the output window's staging buffer the product of
  the two input blocks (`out6_2`); both input windows are on the same array: at a grid point the left block is its
  row band and the right block its column band that the output's block names; the output's blocks tile its array.
  So after all the write-backs the output array is, index by index, the sum over the contracted coordinate of the
  products of the argument array's entries, row by column. At the ideal values.
-/
import proofs.«146970_j35948876268088_1_alg».proof.Proof.KI.Body6
import proofs.«146970_j35948876268088_1_alg».proof.Proof.KI.MatmulAt
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.RA Idealize.SL.Sem
open Idealize.ShloMosaic.Pipeline (Dat Cfg Window)
open scoped BigOperators

/-! ## Region 6's payload at an index -/

/-- The payload at (a, b): the product of the two loaded blocks there. -/
theorem pay6_apply (x0 : Vec Ideal S256x2048 .f32) (x1 : Vec Ideal S2048x256 .f32) (a b : Fin 256) :
    k6_pay1 x0 x1 (ix2 a b) = ∑ k : Fin 2048, x0 (ix2 a k) * x1 (ix2 k b) := by
  unfold k6_pay1
  rw [shapeCast_self, shapeCast_self]
  exact matmul_zero_apply _ _ x0 x1 a b

/-- The same at any index of the block, through its two coordinates. -/
theorem pay6_apply' (x0 : Vec Ideal S256x2048 .f32) (x1 : Vec Ideal S2048x256 .f32) (j : S256x256.Idx) :
    k6_pay1 x0 x1 j = ∑ k : Fin 2048, x0 (ix2 (j 0) k) * x1 (ix2 k (j 1)) := by
  obtain ⟨a, b, rfl⟩ : ∃ (a : Fin 256) (b : Fin 256), j = ix2 a b := ⟨j 0, j 1, eq_ix2 j⟩
  exact pay6_apply x0 x1 a b

/-! ## The whole-array function -/

/-- The product of two 2048×2048 arrays, index by index. -/
def prod6 (a0 : S2048x2048.Idx → EReal) (a1 : S2048x2048.Idx → EReal) : S2048x2048.Idx → EReal :=
  fun i => ∑ k : Fin 2048, a0 (ix2 (i 0) k) * a1 (ix2 k (i 1))

theorem prod6_apply (a0 : S2048x2048.Idx → EReal) (a1 : S2048x2048.Idx → EReal) (r s : Fin 2048) :
    prod6 a0 a1 (ix2 r s) = ∑ k : Fin 2048, a0 (ix2 r k) * a1 (ix2 k s) := rfl

/-! ## The printed index maps, decided over the grid -/

theorem hz6 : (![0, 0] : Fin 2 → Nat) = fun _ => 0 := funext fun a => by fin_cases a <;> rfl

/-- The left input's block is the output block's row band, the right input's its column band; the output's block
    indices stay in their ranges. -/
theorem idx_facts6 : ∀ t : Fin cfg6.N, win6_0.index t (0 : Fin 2) = win6_2.index t (0 : Fin 2)
    ∧ win6_0.index t (1 : Fin 2) = 0
    ∧ win6_1.index t (0 : Fin 2) = 0
    ∧ win6_1.index t (1 : Fin 2) = win6_2.index t (1 : Fin 2)
    ∧ win6_2.index t (0 : Fin 2) ≤ 7 ∧ win6_2.index t (1 : Fin 2) ≤ 7 :=
  (by decide +kernel : ∀ t : Fin grid6.N, _)

/-- Every block of the output array is some point's. -/
theorem idx_onto6 : ∀ (q0 : Fin 8) (q1 : Fin 8), ∃ t : Fin cfg6.N, win6_2.index t = ![q0.val, q1.val] :=
  (by decide +kernel : ∀ (q0 : Fin 8) (q1 : Fin 8), ∃ t : Fin grid6.N, win6_2.index t = ![q0.val, q1.val])

/-! ## What each point writes back, and the array after the run -/

section Region
variable (V : (c : Dev nD) → (b : Ref sig .tc) → Buf (Elt Ideal) ((c : Thread nD τ).loc b))
variable (q : Fin cfg6.W → PosShare TreeShare)

/-- The argument array (both windows read it) as the region finds it, at its literal type. -/
abbrev arg6 (c : Dev nD) : S2048x2048.Idx → EReal := V c main_v24

/-- WHAT POINT `t` WRITES BACK is block `t` of the product of the argument array with itself as the region finds it. -/
theorem flushed6_eq (c : Dev nD) (t : Fin cfg6.N) :
    (dat6 (F := Ideal) V q c).flushed 2 t
      = ((cfg6.win 2).blk t).view.read (Elt Ideal) (prod6 (arg6 V c) (arg6 V c)) := by
  show (cfg6.win 2).cut (grid6.coords t) ((dat6 (F := Ideal) V q c).after 2 t) = _
  rw [after6_2]
  unfold out6_2
  rw [View.canon_unit_zero hz6]
  simp only [View.ld_unit_zero (S := S256x2048) hz6, View.ld_unit_zero (S := S2048x256) hz6]
  obtain ⟨e0, e1, e2, e3, e4, e5⟩ := idx_facts6 t
  funext j
  refine (pay6_apply' _ _ j).trans ?_
  show ∑ k : Fin 2048, arg6 V c (((cfg6.win 0).blk t).view.emb (ix2 (j 0) k)) * arg6 V c (((cfg6.win 1).blk t).view.emb (ix2 k (j 1)))
     = ∑ k : Fin 2048, arg6 V c (ix2 ((((cfg6.win 2).blk t).view.emb j) 0) k) * arg6 V c (ix2 k ((((cfg6.win 2).blk t).view.emb j) 1))
  refine Finset.sum_congr rfl fun k _ => ?_
  have h0 : ((cfg6.win 0).blk t).view.emb (ix2 (j 0) k) = ix2 ((((cfg6.win 2).blk t).view.emb j) 0) k := by
    funext a; apply Fin.ext
    match a with
    | ⟨0, _⟩ => show win6_0.index t (0 : Fin 2) * 256 + 1 * (j 0).val = win6_2.index t (0 : Fin 2) * 256 + 1 * (j 0).val; omega
    | ⟨1, _⟩ => show win6_0.index t (1 : Fin 2) * 2048 + 1 * k.val = k.val; omega
  have h1 : ((cfg6.win 1).blk t).view.emb (ix2 k (j 1)) = ix2 k ((((cfg6.win 2).blk t).view.emb j) 1) := by
    funext a; apply Fin.ext
    match a with
    | ⟨0, _⟩ => show win6_1.index t (0 : Fin 2) * 2048 + 1 * k.val = k.val; omega
    | ⟨1, _⟩ => show win6_1.index t (1 : Fin 2) * 256 + 1 * (j 1).val = win6_2.index t (1 : Fin 2) * 256 + 1 * (j 1).val; omega
  exact congrArg₂ (· * ·) (congrArg (arg6 V c) h0) (congrArg (arg6 V c) h1)

/-- An index of the array is in point `t`'s block iff each coordinate is in the block's range on its axis. -/
theorem mem_blk6 (t : Fin cfg6.N) (i : S2048x2048.Idx) :
    i ∈ ((cfg6.win 2).blk t).view.set ↔ ∀ a : Fin 2, win6_2.index t a * S256x256.size a ≤ (i a).val ∧ (i a).val < win6_2.index t a * S256x256.size a + S256x256.size a := by
  show i ∈ ((View.whole main_v189).slice (win6_2.rect t)).set ↔ _
  rw [View.set_slice_whole, Rect.mem_set_unit]
  exact Iff.rfl

/-- The output's blocks tile its array: the point that covers (r, s) is the one of block (r / 256, s / 256). -/
theorem cover6 (i : S2048x2048.Idx) :
    ∃ t : Fin cfg6.N, (cfg6.win 2).flush t = true ∧ i ∈ ((cfg6.win 2).blk t).view.set := by
  have hi0 : (i 0).val < 2048 := (i 0).isLt
  have hi1 : (i 1).val < 2048 := (i 1).isLt
  obtain ⟨t, ht⟩ := idx_onto6 ⟨(i 0).val / 256, by omega⟩ ⟨(i 1).val / 256, by omega⟩
  have q0 : win6_2.index t (0 : Fin 2) = (i 0).val / 256 := congrFun ht 0
  have q1 : win6_2.index t (1 : Fin 2) = (i 1).val / 256 := congrFun ht 1
  refine ⟨t, flush6_2 t, ?_⟩
  rw [mem_blk6]
  intro a
  match a with
  | ⟨0, _⟩ => show win6_2.index t (0 : Fin 2) * 256 ≤ (i 0).val ∧ (i 0).val < win6_2.index t (0 : Fin 2) * 256 + 256; omega
  | ⟨1, _⟩ => show win6_2.index t (1 : Fin 2) * 256 ≤ (i 1).val ∧ (i 1).val < win6_2.index t (1 : Fin 2) * 256 + 256; omega

/-- THE ARRAY after the run: the product of the argument array with itself, as ONE function of it. -/
theorem arrAt6_out (c : Dev nD) :
    (dat6 (F := Ideal) V q c).arrAt 2 cfg6.N = prod6 (arg6 V c) (arg6 V c) :=
  (dat6 (F := Ideal) V q c).arrAt_eq_of_cover 2 (prod6 (arg6 V c) (arg6 V c)) (fun t _ => flushed6_eq V q c t) cover6

end Region

end Cert.KernelIdeal.Hand

end
-- ==== Proof.KI.Value7.lean ====
/-
  Region 7 read as ONE matrix product. The region's body leaves in the output window's staging buffer the product of
  the two input blocks (`out7_2`); the input windows' blocks at a grid point are the row band of the left array and
  the column band of the right array that the output's block names; the output's blocks tile its array. So after all
  the write-backs the output array is, index by index, the sum over the contracted coordinate of the products of the
  two argument arrays' entries. At the ideal values.
-/
import proofs.«146970_j35948876268088_1_alg».proof.Proof.KI.Body7
import proofs.«146970_j35948876268088_1_alg».proof.Proof.KI.MatmulAt
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.RA Idealize.SL.Sem
open Idealize.ShloMosaic.Pipeline (Dat Cfg Window)
open scoped BigOperators

/-! ## Region 7's payload at an index -/

/-- The payload at (a, b): the product of the two loaded blocks there. -/
theorem pay7_apply (x0 x1 : Vec Ideal S256x256 .f32) (a b : Fin 256) :
    k7_pay1 x0 x1 (ix2 a b) = ∑ k : Fin 256, x0 (ix2 a k) * x1 (ix2 k b) := by
  unfold k7_pay1
  rw [shapeCast_self, shapeCast_self]
  exact matmul_zero_apply _ _ x0 x1 a b

/-- The same at any index of the block, through its two coordinates. -/
theorem pay7_apply' (x0 x1 : Vec Ideal S256x256 .f32) (j : S256x256.Idx) :
    k7_pay1 x0 x1 j = ∑ k : Fin 256, x0 (ix2 (j 0) k) * x1 (ix2 k (j 1)) := by
  obtain ⟨a, b, rfl⟩ : ∃ (a : Fin 256) (b : Fin 256), j = ix2 a b := ⟨j 0, j 1, eq_ix2 j⟩
  exact pay7_apply x0 x1 a b

/-! ## The whole-array function -/

/-- The product of a 2048×256 array by a 256×2048 array, index by index. -/
def prod7 (a0 : S2048x256.Idx → EReal) (a1 : S256x2048.Idx → EReal) : S2048x2048.Idx → EReal :=
  fun i => ∑ k : Fin 256, a0 (ix2 (i 0) k) * a1 (ix2 k (i 1))

theorem prod7_apply (a0 : S2048x256.Idx → EReal) (a1 : S256x2048.Idx → EReal) (r s : Fin 2048) :
    prod7 a0 a1 (ix2 r s) = ∑ k : Fin 256, a0 (ix2 r k) * a1 (ix2 k s) := rfl

/-! ## The printed index maps, decided over the grid -/

theorem hz7 : (![0, 0] : Fin 2 → Nat) = fun _ => 0 := funext fun a => by fin_cases a <;> rfl

/-- The left input's block is the output block's row band, the right input's its column band; the output's block
    indices stay in their ranges. -/
theorem idx_facts7 : ∀ t : Fin cfg7.N, win7_0.index t (0 : Fin 2) = win7_2.index t (0 : Fin 2)
    ∧ win7_0.index t (1 : Fin 2) = 0
    ∧ win7_1.index t (0 : Fin 2) = 0
    ∧ win7_1.index t (1 : Fin 2) = win7_2.index t (1 : Fin 2)
    ∧ win7_2.index t (0 : Fin 2) ≤ 7 ∧ win7_2.index t (1 : Fin 2) ≤ 7 :=
  (by decide +kernel : ∀ t : Fin grid7.N, _)

/-- Every block of the output array is some point's. -/
theorem idx_onto7 : ∀ (q0 : Fin 8) (q1 : Fin 8), ∃ t : Fin cfg7.N, win7_2.index t = ![q0.val, q1.val] :=
  (by decide +kernel : ∀ (q0 : Fin 8) (q1 : Fin 8), ∃ t : Fin grid7.N, win7_2.index t = ![q0.val, q1.val])

/-! ## What each point writes back, and the array after the run -/

section Region
variable (V : (c : Dev nD) → (b : Ref sig .tc) → Buf (Elt Ideal) ((c : Thread nD τ).loc b))
variable (q : Fin cfg7.W → PosShare TreeShare)

/-- The two argument arrays as the region finds them, at their literal types. -/
abbrev lhs7 (c : Dev nD) : S2048x256.Idx → EReal := V c main_v555
abbrev rhs7 (c : Dev nD) : S256x2048.Idx → EReal := V c main_v679

/-- WHAT POINT `t` WRITES BACK is block `t` of the product of the two argument arrays as the region finds them. -/
theorem flushed7_eq (c : Dev nD) (t : Fin cfg7.N) :
    (dat7 (F := Ideal) V q c).flushed 2 t
      = ((cfg7.win 2).blk t).view.read (Elt Ideal) (prod7 (lhs7 V c) (rhs7 V c)) := by
  show (cfg7.win 2).cut (grid7.coords t) ((dat7 (F := Ideal) V q c).after 2 t) = _
  rw [after7_2]
  unfold out7_2
  rw [View.canon_unit_zero hz7]
  simp only [View.ld_unit_zero (S := S256x256) hz7]
  obtain ⟨e0, e1, e2, e3, e4, e5⟩ := idx_facts7 t
  funext j
  refine (pay7_apply' _ _ j).trans ?_
  show ∑ k : Fin 256, lhs7 V c (((cfg7.win 0).blk t).view.emb (ix2 (j 0) k)) * rhs7 V c (((cfg7.win 1).blk t).view.emb (ix2 k (j 1)))
     = ∑ k : Fin 256, lhs7 V c (ix2 ((((cfg7.win 2).blk t).view.emb j) 0) k) * rhs7 V c (ix2 k ((((cfg7.win 2).blk t).view.emb j) 1))
  refine Finset.sum_congr rfl fun k _ => ?_
  have h0 : ((cfg7.win 0).blk t).view.emb (ix2 (j 0) k) = ix2 ((((cfg7.win 2).blk t).view.emb j) 0) k := by
    funext a; apply Fin.ext
    match a with
    | ⟨0, _⟩ => show win7_0.index t (0 : Fin 2) * 256 + 1 * (j 0).val = win7_2.index t (0 : Fin 2) * 256 + 1 * (j 0).val; omega
    | ⟨1, _⟩ => show win7_0.index t (1 : Fin 2) * 256 + 1 * k.val = k.val; omega
  have h1 : ((cfg7.win 1).blk t).view.emb (ix2 k (j 1)) = ix2 k ((((cfg7.win 2).blk t).view.emb j) 1) := by
    funext a; apply Fin.ext
    match a with
    | ⟨0, _⟩ => show win7_1.index t (0 : Fin 2) * 256 + 1 * k.val = k.val; omega
    | ⟨1, _⟩ => show win7_1.index t (1 : Fin 2) * 256 + 1 * (j 1).val = win7_2.index t (1 : Fin 2) * 256 + 1 * (j 1).val; omega
  exact congrArg₂ (· * ·) (congrArg (lhs7 V c) h0) (congrArg (rhs7 V c) h1)

/-- An index of the array is in point `t`'s block iff each coordinate is in the block's range on its axis. -/
theorem mem_blk7 (t : Fin cfg7.N) (i : S2048x2048.Idx) :
    i ∈ ((cfg7.win 2).blk t).view.set ↔ ∀ a : Fin 2, win7_2.index t a * S256x256.size a ≤ (i a).val ∧ (i a).val < win7_2.index t a * S256x256.size a + S256x256.size a := by
  show i ∈ ((View.whole main_v680).slice (win7_2.rect t)).set ↔ _
  rw [View.set_slice_whole, Rect.mem_set_unit]
  exact Iff.rfl

/-- The output's blocks tile its array: the point that covers (r, s) is the one of block (r / 256, s / 256). -/
theorem cover7 (i : S2048x2048.Idx) :
    ∃ t : Fin cfg7.N, (cfg7.win 2).flush t = true ∧ i ∈ ((cfg7.win 2).blk t).view.set := by
  have hi0 : (i 0).val < 2048 := (i 0).isLt
  have hi1 : (i 1).val < 2048 := (i 1).isLt
  obtain ⟨t, ht⟩ := idx_onto7 ⟨(i 0).val / 256, by omega⟩ ⟨(i 1).val / 256, by omega⟩
  have q0 : win7_2.index t (0 : Fin 2) = (i 0).val / 256 := congrFun ht 0
  have q1 : win7_2.index t (1 : Fin 2) = (i 1).val / 256 := congrFun ht 1
  refine ⟨t, flush7_2 t, ?_⟩
  rw [mem_blk7]
  intro a
  match a with
  | ⟨0, _⟩ => show win7_2.index t (0 : Fin 2) * 256 ≤ (i 0).val ∧ (i 0).val < win7_2.index t (0 : Fin 2) * 256 + 256; omega
  | ⟨1, _⟩ => show win7_2.index t (1 : Fin 2) * 256 ≤ (i 1).val ∧ (i 1).val < win7_2.index t (1 : Fin 2) * 256 + 256; omega

/-- THE ARRAY after the run: the product of the two argument arrays, as ONE function of them. -/
theorem arrAt7_out (c : Dev nD) :
    (dat7 (F := Ideal) V q c).arrAt 2 cfg7.N = prod7 (lhs7 V c) (rhs7 V c) :=
  (dat7 (F := Ideal) V q c).arrAt_eq_of_cover 2 (prod7 (lhs7 V c) (rhs7 V c)) (fun t _ => flushed7_eq V q c t) cover7

end Region

end Cert.KernelIdeal.Hand

end
-- ==== Proof.KI.Value8.lean ====
/-
  Region 8 read as ONE matrix product. The region's body leaves in the output window's staging buffer the product of
  the two input blocks (`out8_2`); both input windows are on the same array: at a grid point the left block is its
  row band and the right block its column band that the output's block names; the output's blocks tile its array.
  So after all the write-backs the output array is, index by index, the sum over the contracted coordinate of the
  products of the argument array's entries, row by column. At the ideal values.
-/
import proofs.«146970_j35948876268088_1_alg».proof.Proof.KI.Body8
import proofs.«146970_j35948876268088_1_alg».proof.Proof.KI.MatmulAt
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.RA Idealize.SL.Sem
open Idealize.ShloMosaic.Pipeline (Dat Cfg Window)
open scoped BigOperators

/-! ## Region 8's payload at an index -/

/-- The payload at (a, b): the product of the two loaded blocks there. -/
theorem pay8_apply (x0 : Vec Ideal S256x2048 .f32) (x1 : Vec Ideal S2048x256 .f32) (a b : Fin 256) :
    k8_pay1 x0 x1 (ix2 a b) = ∑ k : Fin 2048, x0 (ix2 a k) * x1 (ix2 k b) := by
  unfold k8_pay1
  rw [shapeCast_self, shapeCast_self]
  exact matmul_zero_apply _ _ x0 x1 a b

/-- The same at any index of the block, through its two coordinates. -/
theorem pay8_apply' (x0 : Vec Ideal S256x2048 .f32) (x1 : Vec Ideal S2048x256 .f32) (j : S256x256.Idx) :
    k8_pay1 x0 x1 j = ∑ k : Fin 2048, x0 (ix2 (j 0) k) * x1 (ix2 k (j 1)) := by
  obtain ⟨a, b, rfl⟩ : ∃ (a : Fin 256) (b : Fin 256), j = ix2 a b := ⟨j 0, j 1, eq_ix2 j⟩
  exact pay8_apply x0 x1 a b

/-! ## The whole-array function -/

/-- The product of two 2048×2048 arrays, index by index. -/
def prod8 (a0 : S2048x2048.Idx → EReal) (a1 : S2048x2048.Idx → EReal) : S2048x2048.Idx → EReal :=
  fun i => ∑ k : Fin 2048, a0 (ix2 (i 0) k) * a1 (ix2 k (i 1))

theorem prod8_apply (a0 : S2048x2048.Idx → EReal) (a1 : S2048x2048.Idx → EReal) (r s : Fin 2048) :
    prod8 a0 a1 (ix2 r s) = ∑ k : Fin 2048, a0 (ix2 r k) * a1 (ix2 k s) := rfl

/-! ## The printed index maps, decided over the grid -/

theorem hz8 : (![0, 0] : Fin 2 → Nat) = fun _ => 0 := funext fun a => by fin_cases a <;> rfl

/-- The left input's block is the output block's row band, the right input's its column band; the output's block
    indices stay in their ranges. -/
theorem idx_facts8 : ∀ t : Fin cfg8.N, win8_0.index t (0 : Fin 2) = win8_2.index t (0 : Fin 2)
    ∧ win8_0.index t (1 : Fin 2) = 0
    ∧ win8_1.index t (0 : Fin 2) = 0
    ∧ win8_1.index t (1 : Fin 2) = win8_2.index t (1 : Fin 2)
    ∧ win8_2.index t (0 : Fin 2) ≤ 7 ∧ win8_2.index t (1 : Fin 2) ≤ 7 :=
  (by decide +kernel : ∀ t : Fin grid8.N, _)

/-- Every block of the output array is some point's. -/
theorem idx_onto8 : ∀ (q0 : Fin 8) (q1 : Fin 8), ∃ t : Fin cfg8.N, win8_2.index t = ![q0.val, q1.val] :=
  (by decide +kernel : ∀ (q0 : Fin 8) (q1 : Fin 8), ∃ t : Fin grid8.N, win8_2.index t = ![q0.val, q1.val])

/-! ## What each point writes back, and the array after the run -/

section Region
variable (V : (c : Dev nD) → (b : Ref sig .tc) → Buf (Elt Ideal) ((c : Thread nD τ).loc b))
variable (q : Fin cfg8.W → PosShare TreeShare)

/-- The argument array (both windows read it) as the region finds it, at its literal type. -/
abbrev arg8 (c : Dev nD) : S2048x2048.Idx → EReal := V c main_v24

/-- WHAT POINT `t` WRITES BACK is block `t` of the product of the argument array with itself as the region finds it. -/
theorem flushed8_eq (c : Dev nD) (t : Fin cfg8.N) :
    (dat8 (F := Ideal) V q c).flushed 2 t
      = ((cfg8.win 2).blk t).view.read (Elt Ideal) (prod8 (arg8 V c) (arg8 V c)) := by
  show (cfg8.win 2).cut (grid8.coords t) ((dat8 (F := Ideal) V q c).after 2 t) = _
  rw [after8_2]
  unfold out8_2
  rw [View.canon_unit_zero hz8]
  simp only [View.ld_unit_zero (S := S256x2048) hz8, View.ld_unit_zero (S := S2048x256) hz8]
  obtain ⟨e0, e1, e2, e3, e4, e5⟩ := idx_facts8 t
  funext j
  refine (pay8_apply' _ _ j).trans ?_
  show ∑ k : Fin 2048, arg8 V c (((cfg8.win 0).blk t).view.emb (ix2 (j 0) k)) * arg8 V c (((cfg8.win 1).blk t).view.emb (ix2 k (j 1)))
     = ∑ k : Fin 2048, arg8 V c (ix2 ((((cfg8.win 2).blk t).view.emb j) 0) k) * arg8 V c (ix2 k ((((cfg8.win 2).blk t).view.emb j) 1))
  refine Finset.sum_congr rfl fun k _ => ?_
  have h0 : ((cfg8.win 0).blk t).view.emb (ix2 (j 0) k) = ix2 ((((cfg8.win 2).blk t).view.emb j) 0) k := by
    funext a; apply Fin.ext
    match a with
    | ⟨0, _⟩ => show win8_0.index t (0 : Fin 2) * 256 + 1 * (j 0).val = win8_2.index t (0 : Fin 2) * 256 + 1 * (j 0).val; omega
    | ⟨1, _⟩ => show win8_0.index t (1 : Fin 2) * 2048 + 1 * k.val = k.val; omega
  have h1 : ((cfg8.win 1).blk t).view.emb (ix2 k (j 1)) = ix2 k ((((cfg8.win 2).blk t).view.emb j) 1) := by
    funext a; apply Fin.ext
    match a with
    | ⟨0, _⟩ => show win8_1.index t (0 : Fin 2) * 2048 + 1 * k.val = k.val; omega
    | ⟨1, _⟩ => show win8_1.index t (1 : Fin 2) * 256 + 1 * (j 1).val = win8_2.index t (1 : Fin 2) * 256 + 1 * (j 1).val; omega
  exact congrArg₂ (· * ·) (congrArg (arg8 V c) h0) (congrArg (arg8 V c) h1)

/-- An index of the array is in point `t`'s block iff each coordinate is in the block's range on its axis. -/
theorem mem_blk8 (t : Fin cfg8.N) (i : S2048x2048.Idx) :
    i ∈ ((cfg8.win 2).blk t).view.set ↔ ∀ a : Fin 2, win8_2.index t a * S256x256.size a ≤ (i a).val ∧ (i a).val < win8_2.index t a * S256x256.size a + S256x256.size a := by
  show i ∈ ((View.whole main_v699).slice (win8_2.rect t)).set ↔ _
  rw [View.set_slice_whole, Rect.mem_set_unit]
  exact Iff.rfl

/-- The output's blocks tile its array: the point that covers (r, s) is the one of block (r / 256, s / 256). -/
theorem cover8 (i : S2048x2048.Idx) :
    ∃ t : Fin cfg8.N, (cfg8.win 2).flush t = true ∧ i ∈ ((cfg8.win 2).blk t).view.set := by
  have hi0 : (i 0).val < 2048 := (i 0).isLt
  have hi1 : (i 1).val < 2048 := (i 1).isLt
  obtain ⟨t, ht⟩ := idx_onto8 ⟨(i 0).val / 256, by omega⟩ ⟨(i 1).val / 256, by omega⟩
  have q0 : win8_2.index t (0 : Fin 2) = (i 0).val / 256 := congrFun ht 0
  have q1 : win8_2.index t (1 : Fin 2) = (i 1).val / 256 := congrFun ht 1
  refine ⟨t, flush8_2 t, ?_⟩
  rw [mem_blk8]
  intro a
  match a with
  | ⟨0, _⟩ => show win8_2.index t (0 : Fin 2) * 256 ≤ (i 0).val ∧ (i 0).val < win8_2.index t (0 : Fin 2) * 256 + 256; omega
  | ⟨1, _⟩ => show win8_2.index t (1 : Fin 2) * 256 ≤ (i 1).val ∧ (i 1).val < win8_2.index t (1 : Fin 2) * 256 + 256; omega

/-- THE ARRAY after the run: the product of the argument array with itself, as ONE function of it. -/
theorem arrAt8_out (c : Dev nD) :
    (dat8 (F := Ideal) V q c).arrAt 2 cfg8.N = prod8 (arg8 V c) (arg8 V c) :=
  (dat8 (F := Ideal) V q c).arrAt_eq_of_cover 2 (prod8 (arg8 V c) (arg8 V c)) (fun t _ => flushed8_eq V q c t) cover8

end Region

end Cert.KernelIdeal.Hand

end
-- ==== Proof.KI.ValueChain.lean ====
/-
  The run's boundary valuations, read at the matrix-product regions' outputs: what region 0 leaves at its output
  array is the product of its two argument arrays as the region is entered, and what region 1 leaves at its output
  array is the product of its argument array with itself; regions 2, 3, 4, 5 and 7 as region 0 (two distinct argument arrays), regions 6 and 8 as region 1.
  At the ideal values.
-/
import proofs.«146970_j35948876268088_1_alg».proof.Proof.KI.Chain
import proofs.«146970_j35948876268088_1_alg».proof.Proof.KI.Value0
import proofs.«146970_j35948876268088_1_alg».proof.Proof.KI.Value1
import proofs.«146970_j35948876268088_1_alg».proof.Proof.KI.Value2
import proofs.«146970_j35948876268088_1_alg».proof.Proof.KI.Value3
import proofs.«146970_j35948876268088_1_alg».proof.Proof.KI.Value4
import proofs.«146970_j35948876268088_1_alg».proof.Proof.KI.Value5
import proofs.«146970_j35948876268088_1_alg».proof.Proof.KI.Value6
import proofs.«146970_j35948876268088_1_alg».proof.Proof.KI.Value7
import proofs.«146970_j35948876268088_1_alg».proof.Proof.KI.Value8

noncomputable section

namespace Cert.KernelIdeal.Hand

open Idealize.ShloMosaic Idealize.ShloMosaic.TcCoe
open Idealize.SL Idealize.SL.RA Idealize.SL.Sem
open Idealize.ShloMosaic.Pipeline (Dat Cfg Window)
open Cert.KernelIdeal Cert.KernelIdeal.Gen Cert.KernelIdeal.GenP

variable (m : (ℓ : Loc nD τ sig) → Buf (Elt Ideal) ℓ) (ρ : Dev nD → PrngReg)

/-- What region 0 leaves at its output array: the product of its two argument arrays as it finds them. -/
theorem X0_out (c : Dev nD) :
    X0 m ρ c (Proc.devRef .tc main_v5) = prod0 (lhs0 (tcV (E0 m ρ)) c) (rhs0 (tcV (E0 m ρ)) c) := by
  unfold X0
  exact (Pipeline.withArrays_arr spec0 launch0.win.arr_inj c (E0 m ρ c) _ 2).trans (arrAt0_out (tcV (E0 m ρ)) qF c)

/-- What region 1 leaves at its output array: the product of its argument array, as it finds it, with itself. -/
theorem X1_out (c : Dev nD) :
    X1 m ρ c (Proc.devRef .tc main_v21) = prod1 (arg1 (tcV (E1 m ρ)) c) (arg1 (tcV (E1 m ρ)) c) := by
  unfold X1
  exact (Pipeline.withArrays_arr (fun _ : Fin 1 => spec1 2) (fun _ _ _ => Subsingleton.elim _ _) c (E1 m ρ c) _ 0).trans
    (arrAt1_out (tcV (E1 m ρ)) qS c)

/-- What region 2 leaves at its output array: the product of its two argument arrays as it finds them. -/
theorem X2_out (c : Dev nD) :
    X2 m ρ c (Proc.devRef .tc main_v34) = prod2 (lhs2 (tcV (E2 m ρ)) c) (rhs2 (tcV (E2 m ρ)) c) := by
  unfold X2
  exact (Pipeline.withArrays_arr spec2 launch2.win.arr_inj c (E2 m ρ c) _ 2).trans (arrAt2_out (tcV (E2 m ρ)) qF c)

/-- What region 3 leaves at its output array: the product of its two argument arrays as it finds them. -/
theorem X3_out (c : Dev nD) :
    X3 m ρ c (Proc.devRef .tc main_v38) = prod3 (lhs3 (tcV (E3 m ρ)) c) (rhs3 (tcV (E3 m ρ)) c) := by
  unfold X3
  exact (Pipeline.withArrays_arr spec3 launch3.win.arr_inj c (E3 m ρ c) _ 2).trans (arrAt3_out (tcV (E3 m ρ)) qF c)

/-- What region 4 leaves at its output array: the product of its two argument arrays as it finds them. -/
theorem X4_out (c : Dev nD) :
    X4 m ρ c (Proc.devRef .tc main_v43) = prod4 (lhs4 (tcV (E4 m ρ)) c) (rhs4 (tcV (E4 m ρ)) c) := by
  unfold X4
  exact (Pipeline.withArrays_arr spec4 launch4.win.arr_inj c (E4 m ρ c) _ 2).trans (arrAt4_out (tcV (E4 m ρ)) qF c)

/-- What region 5 leaves at its output array: the product of its two argument arrays as it finds them. -/
theorem X5_out (c : Dev nD) :
    X5 m ρ c (Proc.devRef .tc main_v170) = prod5 (lhs5 (tcV (E5 m ρ)) c) (rhs5 (tcV (E5 m ρ)) c) := by
  unfold X5
  exact (Pipeline.withArrays_arr spec5 launch5.win.arr_inj c (E5 m ρ c) _ 2).trans (arrAt5_out (tcV (E5 m ρ)) qF c)

/-- What region 6 leaves at its output array: the product of its argument array, as it finds it, with itself. -/
theorem X6_out (c : Dev nD) :
    X6 m ρ c (Proc.devRef .tc main_v189) = prod6 (arg6 (tcV (E6 m ρ)) c) (arg6 (tcV (E6 m ρ)) c) := by
  unfold X6
  exact (Pipeline.withArrays_arr (fun _ : Fin 1 => spec6 2) (fun _ _ _ => Subsingleton.elim _ _) c (E6 m ρ c) _ 0).trans
    (arrAt6_out (tcV (E6 m ρ)) qS c)

/-- What region 7 leaves at its output array: the product of its two argument arrays as it finds them. -/
theorem X7_out (c : Dev nD) :
    X7 m ρ c (Proc.devRef .tc main_v680) = prod7 (lhs7 (tcV (E7 m ρ)) c) (rhs7 (tcV (E7 m ρ)) c) := by
  unfold X7
  exact (Pipeline.withArrays_arr spec7 launch7.win.arr_inj c (E7 m ρ c) _ 2).trans (arrAt7_out (tcV (E7 m ρ)) qF c)

/-- What region 8 leaves at its output array: the product of its argument array, as it finds it, with itself. -/
theorem X8_out (c : Dev nD) :
    X8 m ρ c (Proc.devRef .tc main_v699) = prod8 (arg8 (tcV (E8 m ρ)) c) (arg8 (tcV (E8 m ρ)) c) := by
  unfold X8
  exact (Pipeline.withArrays_arr (fun _ : Fin 1 => spec8 2) (fun _ _ _ => Subsingleton.elim _ _) c (E8 m ρ c) _ 0).trans
    (arrAt8_out (tcV (E8 m ρ)) qS c)

end Cert.KernelIdeal.Hand

end
-- ==== Proof.LibAscending.lean ====
/-
  Host operation lists in single-assignment order, read at the FINAL valuation.

  A printed host program numbers its buffers in program order: every operation writes one HBM buffer, of an index
  larger than every index written before it, and reads only buffers of smaller index. For such a list the buffers'
  contents after the whole list satisfy every operation's own equation — the written buffer holds the operation's
  function of what its operands hold AT THE END — because nothing later rewrites the written buffer or an operand.
  So a long program can be reasoned about one operation at a time, with no term for its whole run.

  Ascending lo ops: the operations of ops write HBM buffers of strictly increasing indices, all at least lo.
-/
import Idealize.ShloMosaic.Lib.StableHlo.Run

noncomputable section

namespace Idealize.ShloMosaic.StableHlo

open Idealize.SL.Sem

variable {τ : Topo} {sig : RefSig} {Val : EltTy → Type}

/-- The operation writes nothing but the HBM buffer of index n. -/
def WritesOnly (op : HloOp τ sig Val) (n : Nat) : Prop :=
  ∀ b ∈ op.writes, ∃ y : Ref sig .tc, Proc.devRef (τ := τ) .tc y = b ∧ y.space = .hbm ∧ y.idx.val = n

/-- The operations write HBM buffers of strictly increasing indices, all at least lo. -/
def Ascending : Nat → List (HloOp τ sig Val) → Prop
  | _, [] => True
  | lo, op :: l => ∃ n, lo ≤ n ∧ WritesOnly op n ∧ Ascending (n + 1) l

theorem WritesOnly.not_mem {op : HloOp τ sig Val} {n : Nat} (h : WritesOnly op n) {r : Ref sig .tc}
    (hs : r.space = .hbm) (hr : r.idx.val ≠ n) : Proc.devRef (τ := τ) .tc r ∉ op.writes := fun hb => by
  obtain ⟨y, he, _, hy⟩ := h _ hb
  have : y = r := Proc.devRef_injective _ he
  exact hr (this ▸ hy)

theorem Ascending.mono : ∀ {lo lo' : Nat} {ops : List (HloOp τ sig Val)}, lo' ≤ lo → Ascending lo ops → Ascending lo' ops
  | _, _, [], _, _ => trivial
  | _, _, _ :: _, h, ⟨n, hn, hw, hl⟩ => ⟨n, h.trans hn, hw, hl⟩

/-- A buffer of index below the list's lower bound keeps its contents. -/
theorem Ascending.spared : ∀ {lo : Nat} {ops : List (HloOp τ sig Val)}, Ascending lo ops → ∀ {r : Ref sig .tc},
    r.space = .hbm → r.idx.val < lo → ∀ V : Valuation τ sig Val, after ops V (Proc.devRef .tc r) = V (Proc.devRef .tc r)
  | _, [], _, _, _, _, _ => rfl
  | lo, op :: l, ⟨n, hn, hw, hl⟩, r, hs, hr, V => by
    rw [after_cons, Ascending.spared hl hs (Nat.lt_succ_of_lt (Nat.lt_of_lt_of_le hr hn)),
      op.result_of_not_mem V (hw.not_mem hs (Nat.ne_of_lt (Nat.lt_of_lt_of_le hr hn)))]

/-- The same with an upper bound: the indices written lie in [lo, hi). -/
def AscTo : Nat → List (HloOp τ sig Val) → Nat → Prop
  | lo, [], hi => lo ≤ hi
  | lo, op :: l, hi => ∃ n, lo ≤ n ∧ WritesOnly op n ∧ AscTo (n + 1) l hi

theorem AscTo.ascending : ∀ {lo hi : Nat} {ops : List (HloOp τ sig Val)}, AscTo lo ops hi → Ascending lo ops
  | _, _, [], _ => trivial
  | _, _, _ :: _, ⟨n, hn, hw, hl⟩ => ⟨n, hn, hw, hl.ascending⟩

theorem AscTo.le : ∀ {lo hi : Nat} {ops : List (HloOp τ sig Val)}, AscTo lo ops hi → lo ≤ hi
  | _, _, [], h => h
  | _, _, _ :: _, ⟨_, hn, _, hl⟩ => hn.trans ((Nat.le_succ _).trans hl.le)

/-- A list writing within [lo, mid) followed by one ascending from mid is ascending from lo. -/
theorem AscTo.append : ∀ {lo mid : Nat} {a b : List (HloOp τ sig Val)}, AscTo lo a mid → Ascending mid b → Ascending lo (a ++ b)
  | _, _, [], _, ha, hb => hb.mono ha
  | _, _, _ :: _, _, ⟨n, hn, hw, hl⟩, hb => ⟨n, hn, hw, hl.append hb⟩

/-- and with an upper bound on the second, within [lo, hi). -/
theorem AscTo.append_to : ∀ {lo mid hi : Nat} {a b : List (HloOp τ sig Val)}, AscTo lo a mid → AscTo mid b hi → AscTo lo (a ++ b) hi
  | _, _, _, [], b, ha, hb => by
    cases b with
    | nil => exact ha.trans hb
    | cons op l => obtain ⟨n, hn, hw, hl⟩ := hb; exact ⟨n, ha.trans hn, hw, hl⟩
  | _, _, _, _ :: _, _, ⟨n, hn, hw, hl⟩, hb => ⟨n, hn, hw, hl.append_to hb⟩

/-- The contents after two lists in a row. -/
theorem after_append (a b : List (HloOp τ sig Val)) (V : Valuation τ sig Val) : after (a ++ b) V = after b (after a V) := by
  induction a generalizing V with
  | nil => rfl
  | cons op l ih => exact ih (op.result V)

/-- IN THE MIDDLE of a list: the buffer the operation writes holds, at the end, the operation's result on the
    contents before it; a buffer of smaller index holds at the end what it held before the operation. -/
theorem after_mid {pre post : List (HloOp τ sig Val)} {op : HloOp τ sig Val} {n : Nat} (hw : WritesOnly op n)
    (hpost : Ascending (n + 1) post) (V : Valuation τ sig Val) :
    (∀ y : Ref sig .tc, y.space = .hbm → y.idx.val = n →
        after (pre ++ op :: post) V (Proc.devRef .tc y) = op.result (after pre V) (Proc.devRef .tc y))
    ∧ (∀ x : Ref sig .tc, x.space = .hbm → x.idx.val < n →
        after (pre ++ op :: post) V (Proc.devRef .tc x) = after pre V (Proc.devRef .tc x)) := by
  refine ⟨fun y hs hy => ?_, fun x hs hx => ?_⟩
  · rw [after_append, after_cons, hpost.spared hs (by omega)]
  · rw [after_append, after_cons, hpost.spared hs (by omega), op.result_of_not_mem _ (hw.not_mem hs (by omega))]

/-! ## The builders write one buffer -/

theorem writesOnly_nullary (y : Ref sig .tc) (v : y.ty.Contents Val) (hy) (hs : y.space = .hbm) :
    WritesOnly (nullary y v hy : HloOp τ sig Val) y.idx.val := fun b hb => by
  rw [nullary_writes, Finset.mem_singleton] at hb; exact ⟨y, hb.symm, hs, rfl⟩
theorem writesOnly_unary (x y : Ref sig .tc) (f : x.ty.Contents Val → y.ty.Contents Val) (hx hy) (hs : y.space = .hbm) :
    WritesOnly (unary x y f hx hy : HloOp τ sig Val) y.idx.val := fun b hb => by
  rw [unary_writes, Finset.mem_singleton] at hb; exact ⟨y, hb.symm, hs, rfl⟩
theorem writesOnly_binary (a b y : Ref sig .tc) (f : a.ty.Contents Val → b.ty.Contents Val → y.ty.Contents Val) (ha hb hy)
    (hs : y.space = .hbm) : WritesOnly (binary a b y f ha hb hy : HloOp τ sig Val) y.idx.val := fun r hr => by
  rw [binary_writes, Finset.mem_singleton] at hr; exact ⟨y, hr.symm, hs, rfl⟩
theorem writesOnly_ternary (c a b y : Ref sig .tc)
    (f : c.ty.Contents Val → a.ty.Contents Val → b.ty.Contents Val → y.ty.Contents Val) (hc ha hb hy)
    (hs : y.space = .hbm) : WritesOnly (ternary c a b y f hc ha hb hy : HloOp τ sig Val) y.idx.val := fun r hr => by
  rw [ternary_writes, Finset.mem_singleton] at hr; exact ⟨y, hr.symm, hs, rfl⟩
theorem writesOnly_reshape (x y : Ref sig .tc) (he hn hx hy) (hs : y.space = .hbm) :
    WritesOnly (reshape x y he hn hx hy : HloOp τ sig Val) y.idx.val := fun r hr => by
  rw [reshape_writes, Finset.mem_singleton] at hr; exact ⟨y, hr.symm, hs, rfl⟩
theorem writesOnly_nary {k : Nat} (xs : Fin k → Ref sig .tc) (y : Ref sig .tc)
    (f : ((i : Fin k) → (xs i).ty.Contents Val) → y.ty.Contents Val) (hxs hy) (hs : y.space = .hbm) :
    WritesOnly (nary xs y f hxs hy : HloOp τ sig Val) y.idx.val := fun r hr => by
  rw [nary_writes, Finset.mem_singleton] at hr; exact ⟨y, hr.symm, hs, rfl⟩

/-! ## Certifying a literal list, one operation at a time -/

theorem AscTo.nil {lo hi : Nat} (h : lo ≤ hi) : AscTo lo ([] : List (HloOp τ sig Val)) hi := h

theorem AscTo.cons_nullary {lo hi : Nat} {y : Ref sig .tc} {v : y.ty.Contents Val} {hy} {l : List (HloOp τ sig Val)}
    (hs : y.space = .hbm) (hle : lo ≤ y.idx.val) (h : AscTo (y.idx.val + 1) l hi) : AscTo lo (nullary y v hy :: l) hi :=
  ⟨_, hle, writesOnly_nullary y v hy hs, h⟩
theorem AscTo.cons_unary {lo hi : Nat} {x y : Ref sig .tc} {f : x.ty.Contents Val → y.ty.Contents Val} {hx hy}
    {l : List (HloOp τ sig Val)} (hs : y.space = .hbm) (hle : lo ≤ y.idx.val) (h : AscTo (y.idx.val + 1) l hi) :
    AscTo lo (unary x y f hx hy :: l) hi :=
  ⟨_, hle, writesOnly_unary x y f hx hy hs, h⟩
theorem AscTo.cons_binary {lo hi : Nat} {a b y : Ref sig .tc} {f : a.ty.Contents Val → b.ty.Contents Val → y.ty.Contents Val}
    {ha hb hy} {l : List (HloOp τ sig Val)} (hs : y.space = .hbm) (hle : lo ≤ y.idx.val) (h : AscTo (y.idx.val + 1) l hi) :
    AscTo lo (binary a b y f ha hb hy :: l) hi :=
  ⟨_, hle, writesOnly_binary a b y f ha hb hy hs, h⟩
theorem AscTo.cons_ternary {lo hi : Nat} {c a b y : Ref sig .tc}
    {f : c.ty.Contents Val → a.ty.Contents Val → b.ty.Contents Val → y.ty.Contents Val} {hc ha hb hy}
    {l : List (HloOp τ sig Val)} (hs : y.space = .hbm) (hle : lo ≤ y.idx.val) (h : AscTo (y.idx.val + 1) l hi) :
    AscTo lo (ternary c a b y f hc ha hb hy :: l) hi :=
  ⟨_, hle, writesOnly_ternary c a b y f hc ha hb hy hs, h⟩
theorem AscTo.cons_reshape {lo hi : Nat} {x y : Ref sig .tc} {he hn hx hy} {l : List (HloOp τ sig Val)}
    (hs : y.space = .hbm) (hle : lo ≤ y.idx.val) (h : AscTo (y.idx.val + 1) l hi) : AscTo lo (reshape x y he hn hx hy :: l) hi :=
  ⟨_, hle, writesOnly_reshape x y he hn hx hy hs, h⟩
theorem AscTo.cons_nary {lo hi k : Nat} {xs : Fin k → Ref sig .tc} {y : Ref sig .tc}
    {f : ((i : Fin k) → (xs i).ty.Contents Val) → y.ty.Contents Val} {hxs hy} {l : List (HloOp τ sig Val)}
    (hs : y.space = .hbm) (hle : lo ≤ y.idx.val) (h : AscTo (y.idx.val + 1) l hi) : AscTo lo (nary xs y f hxs hy :: l) hi :=
  ⟨_, hle, writesOnly_nary xs y f hxs hy hs, h⟩

/-- Certify a literal list: each operation's written index is a literal above the bound so far. -/
macro "asc_tac" : tactic => `(tactic| (repeat' (first
  | exact AscTo.nil (by decide)
  | refine AscTo.cons_unary rfl (by decide) ?_
  | refine AscTo.cons_binary rfl (by decide) ?_
  | refine AscTo.cons_nullary rfl (by decide) ?_
  | refine AscTo.cons_reshape rfl (by decide) ?_
  | refine AscTo.cons_ternary rfl (by decide) ?_
  | refine AscTo.cons_nary rfl (by decide) ?_)))

/-! ## Each kind's equation at the final valuation -/

section Equations

variable {pre post : List (HloOp τ sig Val)} (V : Valuation τ sig Val)

theorem after_mid_nullary {y : Ref sig .tc} {v : y.ty.Contents Val} {hy} (hs : y.space = .hbm)
    (hpost : Ascending (y.idx.val + 1) post) :
    after (pre ++ nullary y v hy :: post) V (Proc.devRef .tc y) = v := by
  rw [(after_mid (pre := pre) (writesOnly_nullary y v hy hs) hpost V).1 y hs rfl, nullary_result]

theorem after_mid_unary {x y : Ref sig .tc} {f : x.ty.Contents Val → y.ty.Contents Val} {hx hy} (hs : y.space = .hbm)
    (hxs : x.space = .hbm) (hxy : x.idx.val < y.idx.val) (hpost : Ascending (y.idx.val + 1) post) :
    after (pre ++ unary x y f hx hy :: post) V (Proc.devRef .tc y)
      = f (after (pre ++ unary x y f hx hy :: post) V (Proc.devRef .tc x)) := by
  have h := after_mid (pre := pre) (writesOnly_unary x y f hx hy hs) hpost V
  rw [h.1 y hs rfl, h.2 x hxs hxy, unary_result]

theorem after_mid_binary {a b y : Ref sig .tc} {f : a.ty.Contents Val → b.ty.Contents Val → y.ty.Contents Val} {ha hb hy}
    (hs : y.space = .hbm) (has : a.space = .hbm) (hbs : b.space = .hbm) (hay : a.idx.val < y.idx.val) (hby : b.idx.val < y.idx.val)
    (hpost : Ascending (y.idx.val + 1) post) :
    after (pre ++ binary a b y f ha hb hy :: post) V (Proc.devRef .tc y)
      = f (after (pre ++ binary a b y f ha hb hy :: post) V (Proc.devRef .tc a))
          (after (pre ++ binary a b y f ha hb hy :: post) V (Proc.devRef .tc b)) := by
  have h := after_mid (pre := pre) (writesOnly_binary a b y f ha hb hy hs) hpost V
  rw [h.1 y hs rfl, h.2 a has hay, h.2 b hbs hby, binary_result]

theorem after_mid_ternary {c a b y : Ref sig .tc}
    {f : c.ty.Contents Val → a.ty.Contents Val → b.ty.Contents Val → y.ty.Contents Val} {hc ha hb hy}
    (hs : y.space = .hbm) (hcs : c.space = .hbm) (has : a.space = .hbm) (hbs : b.space = .hbm)
    (hcy : c.idx.val < y.idx.val) (hay : a.idx.val < y.idx.val) (hby : b.idx.val < y.idx.val)
    (hpost : Ascending (y.idx.val + 1) post) :
    after (pre ++ ternary c a b y f hc ha hb hy :: post) V (Proc.devRef .tc y)
      = f (after (pre ++ ternary c a b y f hc ha hb hy :: post) V (Proc.devRef .tc c))
          (after (pre ++ ternary c a b y f hc ha hb hy :: post) V (Proc.devRef .tc a))
          (after (pre ++ ternary c a b y f hc ha hb hy :: post) V (Proc.devRef .tc b)) := by
  have h := after_mid (pre := pre) (writesOnly_ternary c a b y f hc ha hb hy hs) hpost V
  rw [h.1 y hs rfl, h.2 c hcs hcy, h.2 a has hay, h.2 b hbs hby, ternary_result]

theorem after_mid_reshape {x y : Ref sig .tc} {he : x.ty.elt = y.ty.elt} {hn : x.ty.shape.ShapeCasts y.ty.shape} {hx hy}
    (hs : y.space = .hbm) (hxs : x.space = .hbm) (hxy : x.idx.val < y.idx.val) (hpost : Ascending (y.idx.val + 1) post) :
    after (pre ++ reshape x y he hn hx hy :: post) V (Proc.devRef .tc y)
      = fun i => he ▸ shapeCast y.ty.shape (after (pre ++ reshape x y he hn hx hy :: post) V (Proc.devRef .tc x)) hn i := by
  have h := after_mid (pre := pre) (writesOnly_reshape x y he hn hx hy hs) hpost V
  rw [h.1 y hs rfl, h.2 x hxs hxy, reshape_result]

end Equations

/-! ## The equations from membership

For an operation that IS SOMEWHERE in an ascending list, what follows it is ascending above its written index: so its
equation at the final valuation needs only the membership and the comparison of its operands' indices with its result's. -/

/-- What follows an operation in an ascending list is ascending above the index it writes. -/
theorem Ascending.post_of_append : ∀ {lo : Nat} {pre post : List (HloOp τ sig Val)} {op : HloOp τ sig Val},
    Ascending lo (pre ++ op :: post) → ∀ {y : Ref sig .tc}, Proc.devRef (τ := τ) .tc y ∈ op.writes →
    Ascending (y.idx.val + 1) post
  | _, [], _, _, ⟨n, _, hw, hp⟩, y, hy => by
    obtain ⟨y', he, _, hn⟩ := hw _ hy
    have : y' = y := Proc.devRef_injective _ he
    subst this; subst hn; exact hp
  | _, _ :: _, _, _, ⟨_, _, _, hl⟩, _, hy => Ascending.post_of_append hl hy

section FromMembership

variable {lo : Nat} {L : List (HloOp τ sig Val)} (hL : Ascending lo L) (V : Valuation τ sig Val)
include hL

theorem Ascending.eq_nullary {y : Ref sig .tc} {v : y.ty.Contents Val} {hy} (hm : nullary y v hy ∈ L) (hs : y.space = .hbm) :
    after L V (Proc.devRef .tc y) = v := by
  obtain ⟨pre, post, rfl⟩ := List.append_of_mem hm
  exact after_mid_nullary V hs (hL.post_of_append (by rw [nullary_writes]; exact Finset.mem_singleton_self _))

theorem Ascending.eq_unary {x y : Ref sig .tc} {f : x.ty.Contents Val → y.ty.Contents Val} {hx hy}
    (hm : unary x y f hx hy ∈ L) (hs : y.space = .hbm) (hxs : x.space = .hbm) (hxy : x.idx.val < y.idx.val) :
    after L V (Proc.devRef .tc y) = f (after L V (Proc.devRef .tc x)) := by
  obtain ⟨pre, post, rfl⟩ := List.append_of_mem hm
  exact after_mid_unary V hs hxs hxy (hL.post_of_append (by rw [unary_writes]; exact Finset.mem_singleton_self _))

theorem Ascending.eq_binary {a b y : Ref sig .tc} {f : a.ty.Contents Val → b.ty.Contents Val → y.ty.Contents Val} {ha hb hy}
    (hm : binary a b y f ha hb hy ∈ L) (hs : y.space = .hbm) (has : a.space = .hbm) (hbs : b.space = .hbm)
    (hay : a.idx.val < y.idx.val) (hby : b.idx.val < y.idx.val) :
    after L V (Proc.devRef .tc y) = f (after L V (Proc.devRef .tc a)) (after L V (Proc.devRef .tc b)) := by
  obtain ⟨pre, post, rfl⟩ := List.append_of_mem hm
  exact after_mid_binary V hs has hbs hay hby (hL.post_of_append (by rw [binary_writes]; exact Finset.mem_singleton_self _))

theorem Ascending.eq_ternary {c a b y : Ref sig .tc}
    {f : c.ty.Contents Val → a.ty.Contents Val → b.ty.Contents Val → y.ty.Contents Val} {hc ha hb hy}
    (hm : ternary c a b y f hc ha hb hy ∈ L) (hs : y.space = .hbm) (hcs : c.space = .hbm) (has : a.space = .hbm)
    (hbs : b.space = .hbm) (hcy : c.idx.val < y.idx.val) (hay : a.idx.val < y.idx.val) (hby : b.idx.val < y.idx.val) :
    after L V (Proc.devRef .tc y)
      = f (after L V (Proc.devRef .tc c)) (after L V (Proc.devRef .tc a)) (after L V (Proc.devRef .tc b)) := by
  obtain ⟨pre, post, rfl⟩ := List.append_of_mem hm
  exact after_mid_ternary V hs hcs has hbs hcy hay hby
    (hL.post_of_append (by rw [ternary_writes]; exact Finset.mem_singleton_self _))

theorem Ascending.eq_reshape {x y : Ref sig .tc} {he : x.ty.elt = y.ty.elt} {hn : x.ty.shape.ShapeCasts y.ty.shape} {hx hy}
    (hm : reshape x y he hn hx hy ∈ L) (hs : y.space = .hbm) (hxs : x.space = .hbm) (hxy : x.idx.val < y.idx.val) :
    after L V (Proc.devRef .tc y) = fun i => he ▸ shapeCast y.ty.shape (after L V (Proc.devRef .tc x)) hn i := by
  obtain ⟨pre, post, rfl⟩ := List.append_of_mem hm
  exact after_mid_reshape V hs hxs hxy (hL.post_of_append (by rw [reshape_writes]; exact Finset.mem_singleton_self _))

end FromMembership

/-- An n-ary operation (a concatenation) in the middle of a list. -/
theorem after_mid_nary {pre post : List (HloOp τ sig Val)} (V : Valuation τ sig Val) {k : Nat} {xs : Fin k → Ref sig .tc}
    {y : Ref sig .tc} {f : ((i : Fin k) → (xs i).ty.Contents Val) → y.ty.Contents Val} {hxs hy} (hs : y.space = .hbm)
    (hxs' : ∀ i, (xs i).space = .hbm) (hlt : ∀ i, (xs i).idx.val < y.idx.val) (hpost : Ascending (y.idx.val + 1) post) :
    after (pre ++ nary xs y f hxs hy :: post) V (Proc.devRef .tc y)
      = f (fun i => after (pre ++ nary xs y f hxs hy :: post) V (Proc.devRef .tc (xs i))) := by
  have h := after_mid (pre := pre) (writesOnly_nary xs y f hxs hy hs) hpost V
  rw [h.1 y hs rfl, nary_result]
  exact congrArg f (funext fun i => (h.2 (xs i) (hxs' i) (hlt i)).symm)

theorem Ascending.eq_nary {lo : Nat} {L : List (HloOp τ sig Val)} (hL : Ascending lo L) (V : Valuation τ sig Val) {k : Nat}
    {xs : Fin k → Ref sig .tc} {y : Ref sig .tc} {f : ((i : Fin k) → (xs i).ty.Contents Val) → y.ty.Contents Val} {hxs hy}
    (hm : nary xs y f hxs hy ∈ L) (hs : y.space = .hbm) (hxs' : ∀ i, (xs i).space = .hbm)
    (hlt : ∀ i, (xs i).idx.val < y.idx.val) :
    after L V (Proc.devRef .tc y) = f (fun i => after L V (Proc.devRef .tc (xs i))) := by
  obtain ⟨pre, post, rfl⟩ := List.append_of_mem hm
  exact after_mid_nary V hs hxs' hlt (hL.post_of_append (by rw [nary_writes]; exact Finset.mem_singleton_self _))

end Idealize.ShloMosaic.StableHlo
-- ==== Proof.KI.AscA.lean ====
/-
  Single-assignment order of the printed host stretches: the stretches before region 0 and between regions 0 … 6 (hostOps0 … hostOps6_2).

  For each stretch: its operations write HBM buffers of strictly increasing indices, all within the stated half-open
  range [lo, hi) — lo the index its first operation writes, hi one more than the index its last operation writes. The
  ranges of consecutive stretches abut, and leave exactly one index free where a kernel region's output array sits.
  Each statement is certified one operation at a time: the written reference's space and index are literals.
-/
import proofs.«146970_j35948876268088_1_alg».proof.Proof.KI.LaunchB2
import proofs.«146970_j35948876268088_1_alg».proof.Proof.LibAscending

set_option maxRecDepth 16384

noncomputable section

namespace Cert.KernelIdeal.Hand

open Idealize.ShloMosaic Idealize.ShloMosaic.TcCoe Idealize.SL.Sem
open Cert.KernelIdeal Cert.KernelIdeal.Gen Cert.KernelIdeal.GenP

variable {F : FTy → Type} [FloatOps F]

theorem hostOps0_asc : StableHlo.AscTo 12 (hostOps0 : List (HloOp τ sig (Elt F))) 18 := by
  unfold hostOps0; asc_tac

theorem hostOps1_asc : StableHlo.AscTo 19 (hostOps1 : List (HloOp τ sig (Elt F))) 38 := by
  unfold hostOps1; asc_tac

theorem hostOps2_asc : StableHlo.AscTo 39 (hostOps2 : List (HloOp τ sig (Elt F))) 56 := by
  unfold hostOps2; asc_tac

theorem hostOps3_asc : StableHlo.AscTo 57 (hostOps3 : List (HloOp τ sig (Elt F))) 60 := by
  unfold hostOps3; asc_tac

theorem hostOps4_asc : StableHlo.AscTo 61 (hostOps4 : List (HloOp τ sig (Elt F))) 65 := by
  unfold hostOps4; asc_tac

set_option maxHeartbeats 16000000 in
theorem hostOps5_asc : StableHlo.AscTo 66 (hostOps5 : List (HloOp τ sig (Elt F))) 208 := by
  unfold hostOps5; asc_tac

theorem hostOps6_asc : StableHlo.AscTo 209 (hostOps6 : List (HloOp τ sig (Elt F))) 229 := by
  unfold hostOps6; asc_tac

theorem hostOps6_1_asc : StableHlo.AscTo 229 (hostOps6_1 : List (HloOp τ sig (Elt F))) 232 := by
  unfold hostOps6_1; asc_tac

theorem hostOps6_2_asc : StableHlo.AscTo 232 (hostOps6_2 : List (HloOp τ sig (Elt F))) 233 := by
  unfold hostOps6_2; asc_tac

end Cert.KernelIdeal.Hand

end
-- ==== Proof.KI.AscB.lean ====
/-
  Single-assignment order of the printed host stretches: the first half of the stretches between regions 6 and 7 (hostOps7 … hostOps7_24).

  For each stretch: its operations write HBM buffers of strictly increasing indices, all within the stated half-open
  range [lo, hi) — lo the index its first operation writes, hi one more than the index its last operation writes. The
  ranges of consecutive stretches abut, and leave exactly one index free where a kernel region's output array sits.
  Each statement is certified one operation at a time: the written reference's space and index are literals.
-/
import proofs.«146970_j35948876268088_1_alg».proof.Proof.KI.LaunchB2
import proofs.«146970_j35948876268088_1_alg».proof.Proof.LibAscending

set_option maxRecDepth 16384

noncomputable section

namespace Cert.KernelIdeal.Hand

open Idealize.ShloMosaic Idealize.ShloMosaic.TcCoe Idealize.SL.Sem
open Cert.KernelIdeal Cert.KernelIdeal.Gen Cert.KernelIdeal.GenP

variable {F : FTy → Type} [FloatOps F]

theorem hostOps7_asc : StableHlo.AscTo 234 (hostOps7 : List (HloOp τ sig (Elt F))) 264 := by
  unfold hostOps7; asc_tac

theorem hostOps7_1_asc : StableHlo.AscTo 264 (hostOps7_1 : List (HloOp τ sig (Elt F))) 271 := by
  unfold hostOps7_1; asc_tac

theorem hostOps7_2_asc : StableHlo.AscTo 271 (hostOps7_2 : List (HloOp τ sig (Elt F))) 292 := by
  unfold hostOps7_2; asc_tac

theorem hostOps7_3_asc : StableHlo.AscTo 292 (hostOps7_3 : List (HloOp τ sig (Elt F))) 295 := by
  unfold hostOps7_3; asc_tac

theorem hostOps7_4_asc : StableHlo.AscTo 295 (hostOps7_4 : List (HloOp τ sig (Elt F))) 311 := by
  unfold hostOps7_4; asc_tac

theorem hostOps7_5_asc : StableHlo.AscTo 311 (hostOps7_5 : List (HloOp τ sig (Elt F))) 326 := by
  unfold hostOps7_5; asc_tac

theorem hostOps7_6_asc : StableHlo.AscTo 326 (hostOps7_6 : List (HloOp τ sig (Elt F))) 337 := by
  unfold hostOps7_6; asc_tac

theorem hostOps7_7_asc : StableHlo.AscTo 337 (hostOps7_7 : List (HloOp τ sig (Elt F))) 344 := by
  unfold hostOps7_7; asc_tac

theorem hostOps7_8_asc : StableHlo.AscTo 344 (hostOps7_8 : List (HloOp τ sig (Elt F))) 365 := by
  unfold hostOps7_8; asc_tac

theorem hostOps7_9_asc : StableHlo.AscTo 365 (hostOps7_9 : List (HloOp τ sig (Elt F))) 368 := by
  unfold hostOps7_9; asc_tac

theorem hostOps7_10_asc : StableHlo.AscTo 368 (hostOps7_10 : List (HloOp τ sig (Elt F))) 384 := by
  unfold hostOps7_10; asc_tac

theorem hostOps7_11_asc : StableHlo.AscTo 384 (hostOps7_11 : List (HloOp τ sig (Elt F))) 399 := by
  unfold hostOps7_11; asc_tac

theorem hostOps7_12_asc : StableHlo.AscTo 399 (hostOps7_12 : List (HloOp τ sig (Elt F))) 415 := by
  unfold hostOps7_12; asc_tac

theorem hostOps7_13_asc : StableHlo.AscTo 415 (hostOps7_13 : List (HloOp τ sig (Elt F))) 422 := by
  unfold hostOps7_13; asc_tac

theorem hostOps7_14_asc : StableHlo.AscTo 422 (hostOps7_14 : List (HloOp τ sig (Elt F))) 443 := by
  unfold hostOps7_14; asc_tac

theorem hostOps7_15_asc : StableHlo.AscTo 443 (hostOps7_15 : List (HloOp τ sig (Elt F))) 446 := by
  unfold hostOps7_15; asc_tac

theorem hostOps7_16_asc : StableHlo.AscTo 446 (hostOps7_16 : List (HloOp τ sig (Elt F))) 462 := by
  unfold hostOps7_16; asc_tac

theorem hostOps7_17_asc : StableHlo.AscTo 462 (hostOps7_17 : List (HloOp τ sig (Elt F))) 477 := by
  unfold hostOps7_17; asc_tac

theorem hostOps7_18_asc : StableHlo.AscTo 477 (hostOps7_18 : List (HloOp τ sig (Elt F))) 488 := by
  unfold hostOps7_18; asc_tac

theorem hostOps7_19_asc : StableHlo.AscTo 488 (hostOps7_19 : List (HloOp τ sig (Elt F))) 495 := by
  unfold hostOps7_19; asc_tac

theorem hostOps7_20_asc : StableHlo.AscTo 495 (hostOps7_20 : List (HloOp τ sig (Elt F))) 516 := by
  unfold hostOps7_20; asc_tac

theorem hostOps7_21_asc : StableHlo.AscTo 516 (hostOps7_21 : List (HloOp τ sig (Elt F))) 519 := by
  unfold hostOps7_21; asc_tac

theorem hostOps7_22_asc : StableHlo.AscTo 519 (hostOps7_22 : List (HloOp τ sig (Elt F))) 535 := by
  unfold hostOps7_22; asc_tac

theorem hostOps7_23_asc : StableHlo.AscTo 535 (hostOps7_23 : List (HloOp τ sig (Elt F))) 550 := by
  unfold hostOps7_23; asc_tac

theorem hostOps7_24_asc : StableHlo.AscTo 550 (hostOps7_24 : List (HloOp τ sig (Elt F))) 566 := by
  unfold hostOps7_24; asc_tac

end Cert.KernelIdeal.Hand

end
-- ==== Proof.KI.AscC.lean ====
/-
  Single-assignment order of the printed host stretches: the second half of the stretches between regions 6 and 7 (hostOps7_25 … hostOps7_50).

  For each stretch: its operations write HBM buffers of strictly increasing indices, all within the stated half-open
  range [lo, hi) — lo the index its first operation writes, hi one more than the index its last operation writes. The
  ranges of consecutive stretches abut, and leave exactly one index free where a kernel region's output array sits.
  Each statement is certified one operation at a time: the written reference's space and index are literals.
-/
import proofs.«146970_j35948876268088_1_alg».proof.Proof.KI.LaunchB2
import proofs.«146970_j35948876268088_1_alg».proof.Proof.LibAscending

set_option maxRecDepth 16384

noncomputable section

namespace Cert.KernelIdeal.Hand

open Idealize.ShloMosaic Idealize.ShloMosaic.TcCoe Idealize.SL.Sem
open Cert.KernelIdeal Cert.KernelIdeal.Gen Cert.KernelIdeal.GenP

variable {F : FTy → Type} [FloatOps F]

theorem hostOps7_25_asc : StableHlo.AscTo 566 (hostOps7_25 : List (HloOp τ sig (Elt F))) 573 := by
  unfold hostOps7_25; asc_tac

theorem hostOps7_26_asc : StableHlo.AscTo 573 (hostOps7_26 : List (HloOp τ sig (Elt F))) 594 := by
  unfold hostOps7_26; asc_tac

theorem hostOps7_27_asc : StableHlo.AscTo 594 (hostOps7_27 : List (HloOp τ sig (Elt F))) 597 := by
  unfold hostOps7_27; asc_tac

theorem hostOps7_28_asc : StableHlo.AscTo 597 (hostOps7_28 : List (HloOp τ sig (Elt F))) 613 := by
  unfold hostOps7_28; asc_tac

theorem hostOps7_29_asc : StableHlo.AscTo 613 (hostOps7_29 : List (HloOp τ sig (Elt F))) 628 := by
  unfold hostOps7_29; asc_tac

theorem hostOps7_30_asc : StableHlo.AscTo 628 (hostOps7_30 : List (HloOp τ sig (Elt F))) 639 := by
  unfold hostOps7_30; asc_tac

theorem hostOps7_31_asc : StableHlo.AscTo 639 (hostOps7_31 : List (HloOp τ sig (Elt F))) 646 := by
  unfold hostOps7_31; asc_tac

theorem hostOps7_32_asc : StableHlo.AscTo 646 (hostOps7_32 : List (HloOp τ sig (Elt F))) 667 := by
  unfold hostOps7_32; asc_tac

theorem hostOps7_33_asc : StableHlo.AscTo 667 (hostOps7_33 : List (HloOp τ sig (Elt F))) 670 := by
  unfold hostOps7_33; asc_tac

theorem hostOps7_34_asc : StableHlo.AscTo 670 (hostOps7_34 : List (HloOp τ sig (Elt F))) 686 := by
  unfold hostOps7_34; asc_tac

theorem hostOps7_35_asc : StableHlo.AscTo 686 (hostOps7_35 : List (HloOp τ sig (Elt F))) 701 := by
  unfold hostOps7_35; asc_tac

theorem hostOps7_36_asc : StableHlo.AscTo 701 (hostOps7_36 : List (HloOp τ sig (Elt F))) 717 := by
  unfold hostOps7_36; asc_tac

theorem hostOps7_37_asc : StableHlo.AscTo 717 (hostOps7_37 : List (HloOp τ sig (Elt F))) 724 := by
  unfold hostOps7_37; asc_tac

theorem hostOps7_38_asc : StableHlo.AscTo 724 (hostOps7_38 : List (HloOp τ sig (Elt F))) 745 := by
  unfold hostOps7_38; asc_tac

theorem hostOps7_39_asc : StableHlo.AscTo 745 (hostOps7_39 : List (HloOp τ sig (Elt F))) 748 := by
  unfold hostOps7_39; asc_tac

theorem hostOps7_40_asc : StableHlo.AscTo 748 (hostOps7_40 : List (HloOp τ sig (Elt F))) 764 := by
  unfold hostOps7_40; asc_tac

theorem hostOps7_41_asc : StableHlo.AscTo 764 (hostOps7_41 : List (HloOp τ sig (Elt F))) 779 := by
  unfold hostOps7_41; asc_tac

theorem hostOps7_42_asc : StableHlo.AscTo 779 (hostOps7_42 : List (HloOp τ sig (Elt F))) 790 := by
  unfold hostOps7_42; asc_tac

theorem hostOps7_43_asc : StableHlo.AscTo 790 (hostOps7_43 : List (HloOp τ sig (Elt F))) 797 := by
  unfold hostOps7_43; asc_tac

theorem hostOps7_44_asc : StableHlo.AscTo 797 (hostOps7_44 : List (HloOp τ sig (Elt F))) 818 := by
  unfold hostOps7_44; asc_tac

theorem hostOps7_45_asc : StableHlo.AscTo 818 (hostOps7_45 : List (HloOp τ sig (Elt F))) 821 := by
  unfold hostOps7_45; asc_tac

theorem hostOps7_46_asc : StableHlo.AscTo 821 (hostOps7_46 : List (HloOp τ sig (Elt F))) 837 := by
  unfold hostOps7_46; asc_tac

theorem hostOps7_47_asc : StableHlo.AscTo 837 (hostOps7_47 : List (HloOp τ sig (Elt F))) 852 := by
  unfold hostOps7_47; asc_tac

theorem hostOps7_48_asc : StableHlo.AscTo 852 (hostOps7_48 : List (HloOp τ sig (Elt F))) 858 := by
  unfold hostOps7_48; asc_tac

theorem hostOps7_49_asc : StableHlo.AscTo 858 (hostOps7_49 : List (HloOp τ sig (Elt F))) 873 := by
  unfold hostOps7_49; asc_tac

set_option maxHeartbeats 16000000 in
theorem hostOps7_50_asc : StableHlo.AscTo 873 (hostOps7_50 : List (HloOp τ sig (Elt F))) 1013 := by
  unfold hostOps7_50; asc_tac

end Cert.KernelIdeal.Hand

end
-- ==== Proof.KI.AscD.lean ====
/-
  Single-assignment order of the printed host stretches: the stretches between regions 7 and 8 and after region 8 (hostOps8 … hostOps9_11).

  For each stretch: its operations write HBM buffers of strictly increasing indices, all within the stated half-open
  range [lo, hi) — lo the index its first operation writes, hi one more than the index its last operation writes. The
  ranges of consecutive stretches abut, and leave exactly one index free where a kernel region's output array sits.
  Each statement is certified one operation at a time: the written reference's space and index are literals.
-/
import proofs.«146970_j35948876268088_1_alg».proof.Proof.KI.LaunchB2
import proofs.«146970_j35948876268088_1_alg».proof.Proof.LibAscending

set_option maxRecDepth 16384

noncomputable section

namespace Cert.KernelIdeal.Hand

open Idealize.ShloMosaic Idealize.ShloMosaic.TcCoe Idealize.SL.Sem
open Cert.KernelIdeal Cert.KernelIdeal.Gen Cert.KernelIdeal.GenP

variable {F : FTy → Type} [FloatOps F]

theorem hostOps8_asc : StableHlo.AscTo 1014 (hostOps8 : List (HloOp τ sig (Elt F))) 1034 := by
  unfold hostOps8; asc_tac

theorem hostOps8_1_asc : StableHlo.AscTo 1034 (hostOps8_1 : List (HloOp τ sig (Elt F))) 1037 := by
  unfold hostOps8_1; asc_tac

theorem hostOps8_2_asc : StableHlo.AscTo 1037 (hostOps8_2 : List (HloOp τ sig (Elt F))) 1038 := by
  unfold hostOps8_2; asc_tac

theorem hostOps9_asc : StableHlo.AscTo 1039 (hostOps9 : List (HloOp τ sig (Elt F))) 1068 := by
  unfold hostOps9; asc_tac

theorem hostOps9_1_asc : StableHlo.AscTo 1068 (hostOps9_1 : List (HloOp τ sig (Elt F))) 1075 := by
  unfold hostOps9_1; asc_tac

theorem hostOps9_2_asc : StableHlo.AscTo 1075 (hostOps9_2 : List (HloOp τ sig (Elt F))) 1096 := by
  unfold hostOps9_2; asc_tac

theorem hostOps9_3_asc : StableHlo.AscTo 1096 (hostOps9_3 : List (HloOp τ sig (Elt F))) 1099 := by
  unfold hostOps9_3; asc_tac

theorem hostOps9_4_asc : StableHlo.AscTo 1099 (hostOps9_4 : List (HloOp τ sig (Elt F))) 1115 := by
  unfold hostOps9_4; asc_tac

theorem hostOps9_5_asc : StableHlo.AscTo 1115 (hostOps9_5 : List (HloOp τ sig (Elt F))) 1130 := by
  unfold hostOps9_5; asc_tac

theorem hostOps9_6_asc : StableHlo.AscTo 1130 (hostOps9_6 : List (HloOp τ sig (Elt F))) 1141 := by
  unfold hostOps9_6; asc_tac

theorem hostOps9_7_asc : StableHlo.AscTo 1141 (hostOps9_7 : List (HloOp τ sig (Elt F))) 1148 := by
  unfold hostOps9_7; asc_tac

theorem hostOps9_8_asc : StableHlo.AscTo 1148 (hostOps9_8 : List (HloOp τ sig (Elt F))) 1169 := by
  unfold hostOps9_8; asc_tac

theorem hostOps9_9_asc : StableHlo.AscTo 1169 (hostOps9_9 : List (HloOp τ sig (Elt F))) 1172 := by
  unfold hostOps9_9; asc_tac

theorem hostOps9_10_asc : StableHlo.AscTo 1172 (hostOps9_10 : List (HloOp τ sig (Elt F))) 1188 := by
  unfold hostOps9_10; asc_tac

theorem hostOps9_11_asc : StableHlo.AscTo 1188 (hostOps9_11 : List (HloOp τ sig (Elt F))) 1203 := by
  unfold hostOps9_11; asc_tac

end Cert.KernelIdeal.Hand

end
-- ==== Proof.KI.AscSt.lean ====
/-
  Single-assignment order of the ten lists of stretches that lie before, between and after the nine kernel regions:
  the operations of each list, concatenated, write HBM buffers of strictly increasing indices within a half-open
  range, by gluing the stretches' own ranges, which abut. Between the range of one list and the next exactly one
  index is free: the output array of the region that runs between them.
-/
import proofs.«146970_j35948876268088_1_alg».proof.Proof.KI.Stretches
import proofs.«146970_j35948876268088_1_alg».proof.Proof.KI.AscA
import proofs.«146970_j35948876268088_1_alg».proof.Proof.KI.AscB
import proofs.«146970_j35948876268088_1_alg».proof.Proof.KI.AscC
import proofs.«146970_j35948876268088_1_alg».proof.Proof.KI.AscD

set_option maxRecDepth 16384

noncomputable section

namespace Cert.KernelIdeal.Hand

open Idealize.ShloMosaic Idealize.ShloMosaic.TcCoe Idealize.SL.Sem
open Cert.KernelIdeal Cert.KernelIdeal.Gen Cert.KernelIdeal.GenP

variable {F : FTy → Type} [FloatOps F]

/-- The stretches before region 0 write the indices 12 … 17, in order. -/
theorem st0_asc : StableHlo.AscTo 12 ((st0 : List (HS F)).flatMap (·.ops)) 18 := by
  unfold st0
  simp only [List.flatMap_cons, List.flatMap_nil]
  exact (hostOps0_asc.append_to <|
    StableHlo.AscTo.nil (Nat.le_refl _))

/-- The stretches between regions 0 and 1 write the indices 19 … 37, in order. -/
theorem st1_asc : StableHlo.AscTo 19 ((st1 : List (HS F)).flatMap (·.ops)) 38 := by
  unfold st1
  simp only [List.flatMap_cons, List.flatMap_nil]
  exact (hostOps1_asc.append_to <|
    StableHlo.AscTo.nil (Nat.le_refl _))

/-- The stretches between regions 1 and 2 write the indices 39 … 55, in order. -/
theorem st2_asc : StableHlo.AscTo 39 ((st2 : List (HS F)).flatMap (·.ops)) 56 := by
  unfold st2
  simp only [List.flatMap_cons, List.flatMap_nil]
  exact (hostOps2_asc.append_to <|
    StableHlo.AscTo.nil (Nat.le_refl _))

/-- The stretches between regions 2 and 3 write the indices 57 … 59, in order. -/
theorem st3_asc : StableHlo.AscTo 57 ((st3 : List (HS F)).flatMap (·.ops)) 60 := by
  unfold st3
  simp only [List.flatMap_cons, List.flatMap_nil]
  exact (hostOps3_asc.append_to <|
    StableHlo.AscTo.nil (Nat.le_refl _))

/-- The stretches between regions 3 and 4 write the indices 61 … 64, in order. -/
theorem st4_asc : StableHlo.AscTo 61 ((st4 : List (HS F)).flatMap (·.ops)) 65 := by
  unfold st4
  simp only [List.flatMap_cons, List.flatMap_nil]
  exact (hostOps4_asc.append_to <|
    StableHlo.AscTo.nil (Nat.le_refl _))

/-- The stretches between regions 4 and 5 write the indices 66 … 207, in order. -/
theorem st5_asc : StableHlo.AscTo 66 ((st5 : List (HS F)).flatMap (·.ops)) 208 := by
  unfold st5
  simp only [List.flatMap_cons, List.flatMap_nil]
  exact (hostOps5_asc.append_to <|
    StableHlo.AscTo.nil (Nat.le_refl _))

/-- The stretches between regions 5 and 6 write the indices 209 … 232, in order. -/
theorem st6_asc : StableHlo.AscTo 209 ((st6 : List (HS F)).flatMap (·.ops)) 233 := by
  unfold st6
  simp only [List.flatMap_cons, List.flatMap_nil]
  exact (hostOps6_asc.append_to <|
    (hostOps6_1_asc.append_to <|
    (hostOps6_2_asc.append_to <|
    StableHlo.AscTo.nil (Nat.le_refl _))))

/-- The stretches between regions 6 and 7 write the indices 234 … 1012, in order. -/
theorem st7_asc : StableHlo.AscTo 234 ((st7 : List (HS F)).flatMap (·.ops)) 1013 := by
  unfold st7
  simp only [List.flatMap_cons, List.flatMap_nil]
  exact (hostOps7_asc.append_to <|
    (hostOps7_1_asc.append_to <|
    (hostOps7_2_asc.append_to <|
    (hostOps7_3_asc.append_to <|
    (hostOps7_4_asc.append_to <|
    (hostOps7_5_asc.append_to <|
    (hostOps7_6_asc.append_to <|
    (hostOps7_7_asc.append_to <|
    (hostOps7_8_asc.append_to <|
    (hostOps7_9_asc.append_to <|
    (hostOps7_10_asc.append_to <|
    (hostOps7_11_asc.append_to <|
    (hostOps7_12_asc.append_to <|
    (hostOps7_13_asc.append_to <|
    (hostOps7_14_asc.append_to <|
    (hostOps7_15_asc.append_to <|
    (hostOps7_16_asc.append_to <|
    (hostOps7_17_asc.append_to <|
    (hostOps7_18_asc.append_to <|
    (hostOps7_19_asc.append_to <|
    (hostOps7_20_asc.append_to <|
    (hostOps7_21_asc.append_to <|
    (hostOps7_22_asc.append_to <|
    (hostOps7_23_asc.append_to <|
    (hostOps7_24_asc.append_to <|
    (hostOps7_25_asc.append_to <|
    (hostOps7_26_asc.append_to <|
    (hostOps7_27_asc.append_to <|
    (hostOps7_28_asc.append_to <|
    (hostOps7_29_asc.append_to <|
    (hostOps7_30_asc.append_to <|
    (hostOps7_31_asc.append_to <|
    (hostOps7_32_asc.append_to <|
    (hostOps7_33_asc.append_to <|
    (hostOps7_34_asc.append_to <|
    (hostOps7_35_asc.append_to <|
    (hostOps7_36_asc.append_to <|
    (hostOps7_37_asc.append_to <|
    (hostOps7_38_asc.append_to <|
    (hostOps7_39_asc.append_to <|
    (hostOps7_40_asc.append_to <|
    (hostOps7_41_asc.append_to <|
    (hostOps7_42_asc.append_to <|
    (hostOps7_43_asc.append_to <|
    (hostOps7_44_asc.append_to <|
    (hostOps7_45_asc.append_to <|
    (hostOps7_46_asc.append_to <|
    (hostOps7_47_asc.append_to <|
    (hostOps7_48_asc.append_to <|
    (hostOps7_49_asc.append_to <|
    (hostOps7_50_asc.append_to <|
    StableHlo.AscTo.nil (Nat.le_refl _))))))))))))))))))))))))))))))))))))))))))))))))))))

/-- The stretches between regions 7 and 8 write the indices 1014 … 1037, in order. -/
theorem st8_asc : StableHlo.AscTo 1014 ((st8 : List (HS F)).flatMap (·.ops)) 1038 := by
  unfold st8
  simp only [List.flatMap_cons, List.flatMap_nil]
  exact (hostOps8_asc.append_to <|
    (hostOps8_1_asc.append_to <|
    (hostOps8_2_asc.append_to <|
    StableHlo.AscTo.nil (Nat.le_refl _))))

/-- The stretches after region 8 write the indices 1039 … 1202, in order. -/
theorem st9_asc : StableHlo.AscTo 1039 ((st9 : List (HS F)).flatMap (·.ops)) 1203 := by
  unfold st9
  simp only [List.flatMap_cons, List.flatMap_nil]
  exact (hostOps9_asc.append_to <|
    (hostOps9_1_asc.append_to <|
    (hostOps9_2_asc.append_to <|
    (hostOps9_3_asc.append_to <|
    (hostOps9_4_asc.append_to <|
    (hostOps9_5_asc.append_to <|
    (hostOps9_6_asc.append_to <|
    (hostOps9_7_asc.append_to <|
    (hostOps9_8_asc.append_to <|
    (hostOps9_9_asc.append_to <|
    (hostOps9_10_asc.append_to <|
    (hostOps9_11_asc.append_to <|
    StableHlo.AscTo.nil (Nat.le_refl _)))))))))))))

end Cert.KernelIdeal.Hand

end
-- ==== Proof.KI.OneList.lean ====
/-
  The program's whole run as the fold of ONE list of operations.

  A kernel region leaves its output array at the matrix product of its two input arrays as it found them, and every
  other buffer as found: as a map of valuations that is exactly what a binary host operation "output := product of
  the inputs" does. So each region is replaced by such a pseudo-operation, the stretches before, between and after
  the regions are concatenated with them, and the valuation when @main returns is the fold of the resulting list over
  the launch contents. The list writes HBM buffers of strictly increasing indices (the program is printed in
  single-assignment order and the regions' outputs take their places in it), so each buffer can be read at the final
  valuation one operation at a time. At the ideal values.
-/
import proofs.«146970_j35948876268088_1_alg».proof.Proof.KI.ValueChain
import proofs.«146970_j35948876268088_1_alg».proof.Proof.LibAscending
import proofs.«146970_j35948876268088_1_alg».proof.Proof.KI.AscSt

set_option maxRecDepth 16384

noncomputable section

namespace Cert.KernelIdeal.Hand

open Idealize.ShloMosaic Idealize.ShloMosaic.TcCoe
open Idealize.SL Idealize.SL.RA Idealize.SL.Sem
open Idealize.ShloMosaic.Pipeline (Dat Cfg Window)
open Cert.KernelIdeal Cert.KernelIdeal.Gen Cert.KernelIdeal.GenP

variable (m : (ℓ : Loc nD τ sig) → Buf (Elt Ideal) ℓ) (ρ : Dev nD → PrngReg)

/-! ## A valuation that is a binary operation's result -/

/-- A valuation X is a binary operation's result on E as soon as X holds the operation's function of E's operands at
    the written buffer and agrees with E at every other buffer. -/
theorem eq_binary_result {a b y : Ref sig .tc} (f : a.ty.Contents (Elt Ideal) → b.ty.Contents (Elt Ideal) → y.ty.Contents (Elt Ideal))
    (ha hb hy) (X E : Valuation τ sig (Elt Ideal))
    (hout : X (Proc.devRef .tc y) = f (E (Proc.devRef .tc a)) (E (Proc.devRef .tc b)))
    (hrest : ∀ d : DevRef τ sig, d ≠ Proc.devRef .tc y → X d = E d) :
    X = (StableHlo.binary a b y f ha hb hy : HloOp τ sig (Elt Ideal)).result E := by
  funext d
  by_cases hd : d = Proc.devRef .tc y
  · subst hd
    rw [hout]
    exact (StableHlo.binary_result a b y f ha hb hy E).symm
  · rw [HloOp.result_of_not_mem _ E (by rw [StableHlo.binary_writes, Finset.mem_singleton]; exact hd)]
    exact hrest d hd

/-- A buffer that is no window's array, named by ANY device reference, is as found. -/
theorem withArrays_of_ne_dev {gr : Nat} {W : Nat} (win : Fin W → Pipeline.WinSpec sig gr) (c : Dev nD) (V : Valuation τ sig (Elt Ideal))
    (A : (w : Fin W) → Buf (Elt Ideal) ((win w).arr.view.loc (c.tc : Thread nD τ))) (d : DevRef τ sig)
    (hd : ∀ w, Proc.devRef .tc (Pipeline.arrRef win w) ≠ d) : Pipeline.withArrays win c V A d = V d := by
  unfold Pipeline.withArrays
  rw [dif_neg]
  rintro ⟨w, e⟩
  exact hd w e

/-! ## The regions as pseudo-operations -/

/-- Region 0 as one operation: main_v5 := main_v1 · main_v4. -/
def regOp0 : HloOp τ sig (Elt Ideal) := StableHlo.binary main_v1 main_v4 main_v5 (fun a b => prod0 a b)

/-- Region 1 as one operation: main_v21 := main_v20 · main_v20. -/
def regOp1 : HloOp τ sig (Elt Ideal) := StableHlo.binary main_v20 main_v20 main_v21 (fun a b => prod1 a b)

/-- Region 2 as one operation: main_v34 := main_v24 · main_v33. -/
def regOp2 : HloOp τ sig (Elt Ideal) := StableHlo.binary main_v24 main_v33 main_v34 (fun a b => prod2 a b)

/-- Region 3 as one operation: main_v38 := main_v37 · main_arg1. -/
def regOp3 : HloOp τ sig (Elt Ideal) := StableHlo.binary main_v37 main_arg1 main_v38 (fun a b => prod3 a b)

/-- Region 4 as one operation: main_v43 := main_v24 · main_v42. -/
def regOp4 : HloOp τ sig (Elt Ideal) := StableHlo.binary main_v24 main_v42 main_v43 (fun a b => prod4 a b)

/-- Region 5 as one operation: main_v170 := main_v45 · main_v169. -/
def regOp5 : HloOp τ sig (Elt Ideal) := StableHlo.binary main_v45 main_v169 main_v170 (fun a b => prod5 a b)

/-- Region 6 as one operation: main_v189 := main_v24 · main_v24. -/
def regOp6 : HloOp τ sig (Elt Ideal) := StableHlo.binary main_v24 main_v24 main_v189 (fun a b => prod6 a b)

/-- Region 7 as one operation: main_v680 := main_v555 · main_v679. -/
def regOp7 : HloOp τ sig (Elt Ideal) := StableHlo.binary main_v555 main_v679 main_v680 (fun a b => prod7 a b)

/-- Region 8 as one operation: main_v699 := main_v24 · main_v24. -/
def regOp8 : HloOp τ sig (Elt Ideal) := StableHlo.binary main_v24 main_v24 main_v699 (fun a b => prod8 a b)

/-! ## What each region leaves is its pseudo-operation's result on what it was entered from -/

/-- The only output window of region 0 is on main_v5. -/
theorem out_is0 : ∀ w : Fin 3, (cfg0.win w).isOut = true → Pipeline.arrRef spec0 w = main_v5 := by decide

theorem X0_eq (c : Dev nD) : X0 m ρ c = (regOp0).result (E0 m ρ c) := by
  unfold regOp0
  refine eq_binary_result _ _ _ _ (X0 m ρ c) (E0 m ρ c) (X0_out m ρ c) fun d hd => ?_
  unfold X0
  by_cases h : ∃ r : Ref sig .tc, Proc.devRef .tc r = d
  · obtain ⟨r, rfl⟩ := h
    exact Pipeline.withArrays_arrAt_spared (dat0 (tcV (E0 m ρ)) qF c) launch0.win.arr_inj (E0 m ρ c) (fun _ => rfl) r
      fun w hw e => hd (by rw [← e, out_is0 w hw])
  · exact withArrays_of_ne_dev _ _ _ _ d fun w e => h ⟨_, e⟩

theorem X1_eq (c : Dev nD) : X1 m ρ c = (regOp1).result (E1 m ρ c) := by
  unfold regOp1
  refine eq_binary_result _ _ _ _ (X1 m ρ c) (E1 m ρ c) (X1_out m ρ c) fun d hd => ?_
  unfold X1
  exact withArrays_of_ne_dev _ _ _ _ d fun _ e => hd e.symm

/-- The only output window of region 2 is on main_v34. -/
theorem out_is2 : ∀ w : Fin 3, (cfg2.win w).isOut = true → Pipeline.arrRef spec2 w = main_v34 := by decide

theorem X2_eq (c : Dev nD) : X2 m ρ c = (regOp2).result (E2 m ρ c) := by
  unfold regOp2
  refine eq_binary_result _ _ _ _ (X2 m ρ c) (E2 m ρ c) (X2_out m ρ c) fun d hd => ?_
  unfold X2
  by_cases h : ∃ r : Ref sig .tc, Proc.devRef .tc r = d
  · obtain ⟨r, rfl⟩ := h
    exact Pipeline.withArrays_arrAt_spared (dat2 (tcV (E2 m ρ)) qF c) launch2.win.arr_inj (E2 m ρ c) (fun _ => rfl) r
      fun w hw e => hd (by rw [← e, out_is2 w hw])
  · exact withArrays_of_ne_dev _ _ _ _ d fun w e => h ⟨_, e⟩

/-- The only output window of region 3 is on main_v38. -/
theorem out_is3 : ∀ w : Fin 3, (cfg3.win w).isOut = true → Pipeline.arrRef spec3 w = main_v38 := by decide

theorem X3_eq (c : Dev nD) : X3 m ρ c = (regOp3).result (E3 m ρ c) := by
  unfold regOp3
  refine eq_binary_result _ _ _ _ (X3 m ρ c) (E3 m ρ c) (X3_out m ρ c) fun d hd => ?_
  unfold X3
  by_cases h : ∃ r : Ref sig .tc, Proc.devRef .tc r = d
  · obtain ⟨r, rfl⟩ := h
    exact Pipeline.withArrays_arrAt_spared (dat3 (tcV (E3 m ρ)) qF c) launch3.win.arr_inj (E3 m ρ c) (fun _ => rfl) r
      fun w hw e => hd (by rw [← e, out_is3 w hw])
  · exact withArrays_of_ne_dev _ _ _ _ d fun w e => h ⟨_, e⟩

/-- The only output window of region 4 is on main_v43. -/
theorem out_is4 : ∀ w : Fin 3, (cfg4.win w).isOut = true → Pipeline.arrRef spec4 w = main_v43 := by decide

theorem X4_eq (c : Dev nD) : X4 m ρ c = (regOp4).result (E4 m ρ c) := by
  unfold regOp4
  refine eq_binary_result _ _ _ _ (X4 m ρ c) (E4 m ρ c) (X4_out m ρ c) fun d hd => ?_
  unfold X4
  by_cases h : ∃ r : Ref sig .tc, Proc.devRef .tc r = d
  · obtain ⟨r, rfl⟩ := h
    exact Pipeline.withArrays_arrAt_spared (dat4 (tcV (E4 m ρ)) qF c) launch4.win.arr_inj (E4 m ρ c) (fun _ => rfl) r
      fun w hw e => hd (by rw [← e, out_is4 w hw])
  · exact withArrays_of_ne_dev _ _ _ _ d fun w e => h ⟨_, e⟩

/-- The only output window of region 5 is on main_v170. -/
theorem out_is5 : ∀ w : Fin 3, (cfg5.win w).isOut = true → Pipeline.arrRef spec5 w = main_v170 := by decide

theorem X5_eq (c : Dev nD) : X5 m ρ c = (regOp5).result (E5 m ρ c) := by
  unfold regOp5
  refine eq_binary_result _ _ _ _ (X5 m ρ c) (E5 m ρ c) (X5_out m ρ c) fun d hd => ?_
  unfold X5
  by_cases h : ∃ r : Ref sig .tc, Proc.devRef .tc r = d
  · obtain ⟨r, rfl⟩ := h
    exact Pipeline.withArrays_arrAt_spared (dat5 (tcV (E5 m ρ)) qF c) launch5.win.arr_inj (E5 m ρ c) (fun _ => rfl) r
      fun w hw e => hd (by rw [← e, out_is5 w hw])
  · exact withArrays_of_ne_dev _ _ _ _ d fun w e => h ⟨_, e⟩

theorem X6_eq (c : Dev nD) : X6 m ρ c = (regOp6).result (E6 m ρ c) := by
  unfold regOp6
  refine eq_binary_result _ _ _ _ (X6 m ρ c) (E6 m ρ c) (X6_out m ρ c) fun d hd => ?_
  unfold X6
  exact withArrays_of_ne_dev _ _ _ _ d fun _ e => hd e.symm

/-- The only output window of region 7 is on main_v680. -/
theorem out_is7 : ∀ w : Fin 3, (cfg7.win w).isOut = true → Pipeline.arrRef spec7 w = main_v680 := by decide

theorem X7_eq (c : Dev nD) : X7 m ρ c = (regOp7).result (E7 m ρ c) := by
  unfold regOp7
  refine eq_binary_result _ _ _ _ (X7 m ρ c) (E7 m ρ c) (X7_out m ρ c) fun d hd => ?_
  unfold X7
  by_cases h : ∃ r : Ref sig .tc, Proc.devRef .tc r = d
  · obtain ⟨r, rfl⟩ := h
    exact Pipeline.withArrays_arrAt_spared (dat7 (tcV (E7 m ρ)) qF c) launch7.win.arr_inj (E7 m ρ c) (fun _ => rfl) r
      fun w hw e => hd (by rw [← e, out_is7 w hw])
  · exact withArrays_of_ne_dev _ _ _ _ d fun w e => h ⟨_, e⟩

theorem X8_eq (c : Dev nD) : X8 m ρ c = (regOp8).result (E8 m ρ c) := by
  unfold regOp8
  refine eq_binary_result _ _ _ _ (X8 m ρ c) (E8 m ρ c) (X8_out m ρ c) fun d hd => ?_
  unfold X8
  exact withArrays_of_ne_dev _ _ _ _ d fun _ e => hd e.symm

/-! ## Stretches as one list -/

/-- The contents after a list of stretches are the contents after their operations, concatenated. -/
theorem afterStretches_eq (l : List (HS Ideal)) (V : Valuation τ sig (Elt Ideal)) :
    Pipeline.afterStretches l V = StableHlo.after (l.flatMap (·.ops)) V := by
  induction l generalizing V with
  | nil => rfl
  | cons s l ih =>
    rw [List.flatMap_cons, StableHlo.after_append]
    exact ih _

/-- The kernel program as one list: the stretches' operations, each region in its place as its pseudo-operation. -/
def KOps : List (HloOp τ sig (Elt Ideal)) :=
  st0.flatMap (·.ops) ++ regOp0 :: (st1.flatMap (·.ops) ++ regOp1 :: (st2.flatMap (·.ops) ++ regOp2 :: (st3.flatMap (·.ops) ++ regOp3 ::
  (st4.flatMap (·.ops) ++ regOp4 :: (st5.flatMap (·.ops) ++ regOp5 :: (st6.flatMap (·.ops) ++ regOp6 :: (st7.flatMap (·.ops) ++ regOp7 ::
  (st8.flatMap (·.ops) ++ regOp8 :: st9.flatMap (·.ops)))))))))

/-- One region with the stretches before it, prepended to a fold: if E is what the stretches l leave from V and X
    is the operation's result on E, then folding rest over X is folding l's operations, the operation and rest over V. -/
theorem after_step (l : List (HS Ideal)) (op : HloOp τ sig (Elt Ideal)) (rest : List (HloOp τ sig (Elt Ideal)))
    (V X : Valuation τ sig (Elt Ideal)) (hX : X = op.result (Pipeline.afterStretches l V)) :
    StableHlo.after rest X = StableHlo.after (l.flatMap (·.ops) ++ op :: rest) V := by
  rw [StableHlo.after_append, StableHlo.after_cons, ← afterStretches_eq, hX]

/-- The valuation when @main returns is the fold of the one list over the launch contents. -/
theorem Wend_eq (c : Dev nD) : Wend m ρ c = StableHlo.after KOps (Wl m ρ c) := by
  unfold KOps
  refine (afterStretches_eq st9 (X8 m ρ c)).trans ?_
  refine (after_step st8 regOp8 _ (X7 m ρ c) (X8 m ρ c) (X8_eq m ρ c)).trans ?_
  refine (after_step st7 regOp7 _ (X6 m ρ c) (X7 m ρ c) (X7_eq m ρ c)).trans ?_
  refine (after_step st6 regOp6 _ (X5 m ρ c) (X6 m ρ c) (X6_eq m ρ c)).trans ?_
  refine (after_step st5 regOp5 _ (X4 m ρ c) (X5 m ρ c) (X5_eq m ρ c)).trans ?_
  refine (after_step st4 regOp4 _ (X3 m ρ c) (X4 m ρ c) (X4_eq m ρ c)).trans ?_
  refine (after_step st3 regOp3 _ (X2 m ρ c) (X3 m ρ c) (X3_eq m ρ c)).trans ?_
  refine (after_step st2 regOp2 _ (X1 m ρ c) (X2 m ρ c) (X2_eq m ρ c)).trans ?_
  refine (after_step st1 regOp1 _ (X0 m ρ c) (X1 m ρ c) (X1_eq m ρ c)).trans ?_
  exact after_step st0 regOp0 _ (Wl m ρ c) (X0 m ρ c) (X0_eq m ρ c)

/-! ## The one list is in single-assignment order -/

/-- The one list writes HBM buffers of strictly increasing indices, starting above the twelve argument arrays: each
    list of stretches fills its range, and each region's pseudo-operation writes the one index left free between
    two consecutive ranges. -/
theorem KOps_asc : StableHlo.Ascending 12 KOps := by
  unfold KOps regOp0 regOp1 regOp2 regOp3 regOp4 regOp5 regOp6 regOp7 regOp8
  exact (st0_asc.append_to <| StableHlo.AscTo.cons_binary rfl (by decide) <|
    st1_asc.append_to <| StableHlo.AscTo.cons_binary rfl (by decide) <|
    st2_asc.append_to <| StableHlo.AscTo.cons_binary rfl (by decide) <|
    st3_asc.append_to <| StableHlo.AscTo.cons_binary rfl (by decide) <|
    st4_asc.append_to <| StableHlo.AscTo.cons_binary rfl (by decide) <|
    st5_asc.append_to <| StableHlo.AscTo.cons_binary rfl (by decide) <|
    st6_asc.append_to <| StableHlo.AscTo.cons_binary rfl (by decide) <|
    st7_asc.append_to <| StableHlo.AscTo.cons_binary rfl (by decide) <|
    st8_asc.append_to <| StableHlo.AscTo.cons_binary rfl (by decide) <| st9_asc).ascending

end Cert.KernelIdeal.Hand

end
-- ==== Proof.Ref.A00.lean ====
import proofs.«146970_j35948876268088_1_alg».proof.Proof.Ref.W00
import proofs.«146970_j35948876268088_1_alg».proof.Proof.LibAscending

noncomputable section

namespace Cert.ReferenceIdeal.Hand

open Cert.ReferenceIdeal Idealize.ShloMosaic Idealize.ShloMosaic.TcCoe Idealize.SL.Sem Idealize.ShloMosaic.StableHlo

variable {F : FTy → Type} [FloatOps F]

variable [Facts]
open Facts₀ Facts

set_option maxRecDepth 16384 in
set_option maxHeartbeats 4000000 in
/-- The 60 operations of window 0 write one HBM buffer each, of indices increasing from 12 to 71. -/
theorem ops_part0_asc : StableHlo.AscTo 12 (ops_part0 : List (HloOp τ sig (Elt F))) 72 := by
  unfold ops_part0; asc_tac

end Cert.ReferenceIdeal.Hand

end
-- ==== Proof.Ref.A01.lean ====
import proofs.«146970_j35948876268088_1_alg».proof.Proof.Ref.W01
import proofs.«146970_j35948876268088_1_alg».proof.Proof.LibAscending

noncomputable section

namespace Cert.ReferenceIdeal.Hand

open Cert.ReferenceIdeal Idealize.ShloMosaic Idealize.ShloMosaic.TcCoe Idealize.SL.Sem Idealize.ShloMosaic.StableHlo

variable {F : FTy → Type} [FloatOps F]

variable [Facts]
open Facts₀ Facts

set_option maxRecDepth 16384 in
set_option maxHeartbeats 4000000 in
/-- The 60 operations of window 1 write one HBM buffer each, of indices increasing from 72 to 131. -/
theorem ops_part1_asc : StableHlo.AscTo 72 (ops_part1 : List (HloOp τ sig (Elt F))) 132 := by
  unfold ops_part1; asc_tac

end Cert.ReferenceIdeal.Hand

end
-- ==== Proof.Ref.A02.lean ====
import proofs.«146970_j35948876268088_1_alg».proof.Proof.Ref.W02
import proofs.«146970_j35948876268088_1_alg».proof.Proof.LibAscending

noncomputable section

namespace Cert.ReferenceIdeal.Hand

open Cert.ReferenceIdeal Idealize.ShloMosaic Idealize.ShloMosaic.TcCoe Idealize.SL.Sem Idealize.ShloMosaic.StableHlo

variable {F : FTy → Type} [FloatOps F]

variable [Facts]
open Facts₀ Facts

set_option maxRecDepth 16384 in
set_option maxHeartbeats 4000000 in
/-- The 60 operations of window 2 write one HBM buffer each, of indices increasing from 132 to 191. -/
theorem ops_part2_asc : StableHlo.AscTo 132 (ops_part2 : List (HloOp τ sig (Elt F))) 192 := by
  unfold ops_part2; asc_tac

end Cert.ReferenceIdeal.Hand

end
-- ==== Proof.Ref.A03.lean ====
import proofs.«146970_j35948876268088_1_alg».proof.Proof.Ref.W03
import proofs.«146970_j35948876268088_1_alg».proof.Proof.LibAscending

noncomputable section

namespace Cert.ReferenceIdeal.Hand

open Cert.ReferenceIdeal Idealize.ShloMosaic Idealize.ShloMosaic.TcCoe Idealize.SL.Sem Idealize.ShloMosaic.StableHlo

variable {F : FTy → Type} [FloatOps F]

variable [Facts]
open Facts₀ Facts

set_option maxRecDepth 16384 in
set_option maxHeartbeats 4000000 in
/-- The 60 operations of window 3 write one HBM buffer each, of indices increasing from 192 to 251. -/
theorem ops_part3_asc : StableHlo.AscTo 192 (ops_part3 : List (HloOp τ sig (Elt F))) 252 := by
  unfold ops_part3; asc_tac

end Cert.ReferenceIdeal.Hand

end
-- ==== Proof.Ref.A04.lean ====
import proofs.«146970_j35948876268088_1_alg».proof.Proof.Ref.W04
import proofs.«146970_j35948876268088_1_alg».proof.Proof.LibAscending

noncomputable section

namespace Cert.ReferenceIdeal.Hand

open Cert.ReferenceIdeal Idealize.ShloMosaic Idealize.ShloMosaic.TcCoe Idealize.SL.Sem Idealize.ShloMosaic.StableHlo

variable {F : FTy → Type} [FloatOps F]

variable [Facts]
open Facts₀ Facts

set_option maxRecDepth 16384 in
set_option maxHeartbeats 4000000 in
/-- The 68 operations of window 4 write one HBM buffer each, of indices increasing from 252 to 319. -/
theorem ops_part4_asc : StableHlo.AscTo 252 (ops_part4 : List (HloOp τ sig (Elt F))) 320 := by
  unfold ops_part4; asc_tac

end Cert.ReferenceIdeal.Hand

end
-- ==== Proof.Ref.A05.lean ====
import proofs.«146970_j35948876268088_1_alg».proof.Proof.Ref.W05
import proofs.«146970_j35948876268088_1_alg».proof.Proof.LibAscending

noncomputable section

namespace Cert.ReferenceIdeal.Hand

open Cert.ReferenceIdeal Idealize.ShloMosaic Idealize.ShloMosaic.TcCoe Idealize.SL.Sem Idealize.ShloMosaic.StableHlo

variable {F : FTy → Type} [FloatOps F]

variable [Facts]
open Facts₀ Facts

set_option maxRecDepth 16384 in
set_option maxHeartbeats 4000000 in
/-- The 84 operations of window 5 write one HBM buffer each, of indices increasing from 320 to 403. -/
theorem ops_part5_asc : StableHlo.AscTo 320 (ops_part5 : List (HloOp τ sig (Elt F))) 404 := by
  unfold ops_part5; asc_tac

end Cert.ReferenceIdeal.Hand

end
-- ==== Proof.Ref.A06.lean ====
import proofs.«146970_j35948876268088_1_alg».proof.Proof.Ref.W06
import proofs.«146970_j35948876268088_1_alg».proof.Proof.LibAscending

noncomputable section

namespace Cert.ReferenceIdeal.Hand

open Cert.ReferenceIdeal Idealize.ShloMosaic Idealize.ShloMosaic.TcCoe Idealize.SL.Sem Idealize.ShloMosaic.StableHlo

variable {F : FTy → Type} [FloatOps F]

variable [Facts]
open Facts₀ Facts

set_option maxRecDepth 16384 in
set_option maxHeartbeats 4000000 in
/-- The 76 operations of window 6 write one HBM buffer each, of indices increasing from 404 to 479. -/
theorem ops_part6_asc : StableHlo.AscTo 404 (ops_part6 : List (HloOp τ sig (Elt F))) 480 := by
  unfold ops_part6; asc_tac

end Cert.ReferenceIdeal.Hand

end
-- ==== Proof.Ref.A07.lean ====
import proofs.«146970_j35948876268088_1_alg».proof.Proof.Ref.W07
import proofs.«146970_j35948876268088_1_alg».proof.Proof.LibAscending

noncomputable section

namespace Cert.ReferenceIdeal.Hand

open Cert.ReferenceIdeal Idealize.ShloMosaic Idealize.ShloMosaic.TcCoe Idealize.SL.Sem Idealize.ShloMosaic.StableHlo

variable {F : FTy → Type} [FloatOps F]

variable [Facts]
open Facts₀ Facts

set_option maxRecDepth 16384 in
set_option maxHeartbeats 4000000 in
/-- The 82 operations of window 7 write one HBM buffer each, of indices increasing from 480 to 561. -/
theorem ops_part7_asc : StableHlo.AscTo 480 (ops_part7 : List (HloOp τ sig (Elt F))) 562 := by
  unfold ops_part7; asc_tac

end Cert.ReferenceIdeal.Hand

end
-- ==== Proof.Ref.A08.lean ====
import proofs.«146970_j35948876268088_1_alg».proof.Proof.Ref.W08
import proofs.«146970_j35948876268088_1_alg».proof.Proof.LibAscending

noncomputable section

namespace Cert.ReferenceIdeal.Hand

open Cert.ReferenceIdeal Idealize.ShloMosaic Idealize.ShloMosaic.TcCoe Idealize.SL.Sem Idealize.ShloMosaic.StableHlo

variable {F : FTy → Type} [FloatOps F]

variable [Facts]
open Facts₀ Facts

set_option maxRecDepth 16384 in
set_option maxHeartbeats 4000000 in
/-- The 82 operations of window 8 write one HBM buffer each, of indices increasing from 562 to 643. -/
theorem ops_part8_asc : StableHlo.AscTo 562 (ops_part8 : List (HloOp τ sig (Elt F))) 644 := by
  unfold ops_part8; asc_tac

end Cert.ReferenceIdeal.Hand

end
-- ==== Proof.Ref.A09.lean ====
import proofs.«146970_j35948876268088_1_alg».proof.Proof.Ref.W09
import proofs.«146970_j35948876268088_1_alg».proof.Proof.LibAscending

noncomputable section

namespace Cert.ReferenceIdeal.Hand

open Cert.ReferenceIdeal Idealize.ShloMosaic Idealize.ShloMosaic.TcCoe Idealize.SL.Sem Idealize.ShloMosaic.StableHlo

variable {F : FTy → Type} [FloatOps F]

variable [Facts]
open Facts₀ Facts

set_option maxRecDepth 16384 in
set_option maxHeartbeats 4000000 in
/-- The 68 operations of window 9 write one HBM buffer each, of indices increasing from 644 to 711. -/
theorem ops_part9_asc : StableHlo.AscTo 644 (ops_part9 : List (HloOp τ sig (Elt F))) 712 := by
  unfold ops_part9; asc_tac

end Cert.ReferenceIdeal.Hand

end
-- ==== Proof.Ref.A10.lean ====
import proofs.«146970_j35948876268088_1_alg».proof.Proof.Ref.W10
import proofs.«146970_j35948876268088_1_alg».proof.Proof.LibAscending

noncomputable section

namespace Cert.ReferenceIdeal.Hand

open Cert.ReferenceIdeal Idealize.ShloMosaic Idealize.ShloMosaic.TcCoe Idealize.SL.Sem Idealize.ShloMosaic.StableHlo

variable {F : FTy → Type} [FloatOps F]

variable [Facts]
open Facts₀ Facts

set_option maxRecDepth 16384 in
set_option maxHeartbeats 4000000 in
/-- The 84 operations of window 10 write one HBM buffer each, of indices increasing from 712 to 795. -/
theorem ops_part10_asc : StableHlo.AscTo 712 (ops_part10 : List (HloOp τ sig (Elt F))) 796 := by
  unfold ops_part10; asc_tac

end Cert.ReferenceIdeal.Hand

end
-- ==== Proof.Ref.A11.lean ====
import proofs.«146970_j35948876268088_1_alg».proof.Proof.Ref.W11
import proofs.«146970_j35948876268088_1_alg».proof.Proof.LibAscending

noncomputable section

namespace Cert.ReferenceIdeal.Hand

open Cert.ReferenceIdeal Idealize.ShloMosaic Idealize.ShloMosaic.TcCoe Idealize.SL.Sem Idealize.ShloMosaic.StableHlo

variable {F : FTy → Type} [FloatOps F]

variable [Facts]
open Facts₀ Facts

set_option maxRecDepth 16384 in
set_option maxHeartbeats 4000000 in
/-- The 76 operations of window 11 write one HBM buffer each, of indices increasing from 796 to 871. -/
theorem ops_part11_asc : StableHlo.AscTo 796 (ops_part11 : List (HloOp τ sig (Elt F))) 872 := by
  unfold ops_part11; asc_tac

end Cert.ReferenceIdeal.Hand

end
-- ==== Proof.Ref.A12.lean ====
import proofs.«146970_j35948876268088_1_alg».proof.Proof.Ref.W12
import proofs.«146970_j35948876268088_1_alg».proof.Proof.LibAscending

noncomputable section

namespace Cert.ReferenceIdeal.Hand

open Cert.ReferenceIdeal Idealize.ShloMosaic Idealize.ShloMosaic.TcCoe Idealize.SL.Sem Idealize.ShloMosaic.StableHlo

variable {F : FTy → Type} [FloatOps F]

variable [Facts]
open Facts₀ Facts

set_option maxRecDepth 16384 in
set_option maxHeartbeats 4000000 in
/-- The 82 operations of window 12 write one HBM buffer each, of indices increasing from 872 to 953. -/
theorem ops_part12_asc : StableHlo.AscTo 872 (ops_part12 : List (HloOp τ sig (Elt F))) 954 := by
  unfold ops_part12; asc_tac

end Cert.ReferenceIdeal.Hand

end
-- ==== Proof.Ref.A13.lean ====
import proofs.«146970_j35948876268088_1_alg».proof.Proof.Ref.W13
import proofs.«146970_j35948876268088_1_alg».proof.Proof.LibAscending

noncomputable section

namespace Cert.ReferenceIdeal.Hand

open Cert.ReferenceIdeal Idealize.ShloMosaic Idealize.ShloMosaic.TcCoe Idealize.SL.Sem Idealize.ShloMosaic.StableHlo

variable {F : FTy → Type} [FloatOps F]

variable [Facts]
open Facts₀ Facts

set_option maxRecDepth 16384 in
set_option maxHeartbeats 4000000 in
/-- The 82 operations of window 13 write one HBM buffer each, of indices increasing from 954 to 1035. -/
theorem ops_part13_asc : StableHlo.AscTo 954 (ops_part13 : List (HloOp τ sig (Elt F))) 1036 := by
  unfold ops_part13; asc_tac

end Cert.ReferenceIdeal.Hand

end
-- ==== Proof.Ref.A14.lean ====
import proofs.«146970_j35948876268088_1_alg».proof.Proof.Ref.W14
import proofs.«146970_j35948876268088_1_alg».proof.Proof.LibAscending

noncomputable section

namespace Cert.ReferenceIdeal.Hand

open Cert.ReferenceIdeal Idealize.ShloMosaic Idealize.ShloMosaic.TcCoe Idealize.SL.Sem Idealize.ShloMosaic.StableHlo

variable {F : FTy → Type} [FloatOps F]

variable [Facts]
open Facts₀ Facts

set_option maxRecDepth 16384 in
set_option maxHeartbeats 4000000 in
/-- The 60 operations of window 14 write one HBM buffer each, of indices increasing from 1036 to 1095. -/
theorem ops_part14_asc : StableHlo.AscTo 1036 (ops_part14 : List (HloOp τ sig (Elt F))) 1096 := by
  unfold ops_part14; asc_tac

end Cert.ReferenceIdeal.Hand

end
-- ==== Proof.Ref.A15.lean ====
import proofs.«146970_j35948876268088_1_alg».proof.Proof.Ref.W15
import proofs.«146970_j35948876268088_1_alg».proof.Proof.LibAscending

noncomputable section

namespace Cert.ReferenceIdeal.Hand

open Cert.ReferenceIdeal Idealize.ShloMosaic Idealize.ShloMosaic.TcCoe Idealize.SL.Sem Idealize.ShloMosaic.StableHlo

variable {F : FTy → Type} [FloatOps F]

variable [Facts]
open Facts₀ Facts

set_option maxRecDepth 16384 in
set_option maxHeartbeats 4000000 in
/-- The 70 operations of window 15 write one HBM buffer each, of indices increasing from 1096 to 1165. -/
theorem ops_part15_asc : StableHlo.AscTo 1096 (ops_part15 : List (HloOp τ sig (Elt F))) 1166 := by
  unfold ops_part15; asc_tac

end Cert.ReferenceIdeal.Hand

end
-- ==== Proof.Ref.A16.lean ====
import proofs.«146970_j35948876268088_1_alg».proof.Proof.Ref.W16
import proofs.«146970_j35948876268088_1_alg».proof.Proof.LibAscending

noncomputable section

namespace Cert.ReferenceIdeal.Hand

open Cert.ReferenceIdeal Idealize.ShloMosaic Idealize.ShloMosaic.TcCoe Idealize.SL.Sem Idealize.ShloMosaic.StableHlo

variable {F : FTy → Type} [FloatOps F]

variable [Facts]
open Facts₀ Facts

set_option maxRecDepth 16384 in
set_option maxHeartbeats 4000000 in
/-- The 82 operations of window 16 write one HBM buffer each, of indices increasing from 1166 to 1247. -/
theorem ops_part16_asc : StableHlo.AscTo 1166 (ops_part16 : List (HloOp τ sig (Elt F))) 1248 := by
  unfold ops_part16; asc_tac

end Cert.ReferenceIdeal.Hand

end
-- ==== Proof.Ref.A17.lean ====
import proofs.«146970_j35948876268088_1_alg».proof.Proof.Ref.W17
import proofs.«146970_j35948876268088_1_alg».proof.Proof.LibAscending

noncomputable section

namespace Cert.ReferenceIdeal.Hand

open Cert.ReferenceIdeal Idealize.ShloMosaic Idealize.ShloMosaic.TcCoe Idealize.SL.Sem Idealize.ShloMosaic.StableHlo

variable {F : FTy → Type} [FloatOps F]

variable [Facts]
open Facts₀ Facts

set_option maxRecDepth 16384 in
set_option maxHeartbeats 4000000 in
/-- The 76 operations of window 17 write one HBM buffer each, of indices increasing from 1248 to 1323. -/
theorem ops_part17_asc : StableHlo.AscTo 1248 (ops_part17 : List (HloOp τ sig (Elt F))) 1324 := by
  unfold ops_part17; asc_tac

end Cert.ReferenceIdeal.Hand

end
-- ==== Proof.Ref.A18.lean ====
import proofs.«146970_j35948876268088_1_alg».proof.Proof.Ref.W18
import proofs.«146970_j35948876268088_1_alg».proof.Proof.LibAscending

noncomputable section

namespace Cert.ReferenceIdeal.Hand

open Cert.ReferenceIdeal Idealize.ShloMosaic Idealize.ShloMosaic.TcCoe Idealize.SL.Sem Idealize.ShloMosaic.StableHlo

variable {F : FTy → Type} [FloatOps F]

variable [Facts]
open Facts₀ Facts

set_option maxRecDepth 16384 in
set_option maxHeartbeats 4000000 in
/-- The 88 operations of window 18 write one HBM buffer each, of indices increasing from 1324 to 1411. -/
theorem ops_part18_asc : StableHlo.AscTo 1324 (ops_part18 : List (HloOp τ sig (Elt F))) 1412 := by
  unfold ops_part18; asc_tac

end Cert.ReferenceIdeal.Hand

end
-- ==== Proof.Ref.A19.lean ====
import proofs.«146970_j35948876268088_1_alg».proof.Proof.Ref.W19
import proofs.«146970_j35948876268088_1_alg».proof.Proof.LibAscending

noncomputable section

namespace Cert.ReferenceIdeal.Hand

open Cert.ReferenceIdeal Idealize.ShloMosaic Idealize.ShloMosaic.TcCoe Idealize.SL.Sem Idealize.ShloMosaic.StableHlo

variable {F : FTy → Type} [FloatOps F]

variable [Facts]
open Facts₀ Facts

set_option maxRecDepth 16384 in
set_option maxHeartbeats 4000000 in
/-- The 76 operations of window 19 write one HBM buffer each, of indices increasing from 1412 to 1487. -/
theorem ops_part19_asc : StableHlo.AscTo 1412 (ops_part19 : List (HloOp τ sig (Elt F))) 1488 := by
  unfold ops_part19; asc_tac

end Cert.ReferenceIdeal.Hand

end
-- ==== Proof.Ref.A20.lean ====
import proofs.«146970_j35948876268088_1_alg».proof.Proof.Ref.W20
import proofs.«146970_j35948876268088_1_alg».proof.Proof.LibAscending

noncomputable section

namespace Cert.ReferenceIdeal.Hand

open Cert.ReferenceIdeal Idealize.ShloMosaic Idealize.ShloMosaic.TcCoe Idealize.SL.Sem Idealize.ShloMosaic.StableHlo

variable {F : FTy → Type} [FloatOps F]

variable [Facts]
open Facts₀ Facts

set_option maxRecDepth 16384 in
set_option maxHeartbeats 4000000 in
/-- The 68 operations of window 20 write one HBM buffer each, of indices increasing from 1488 to 1555. -/
theorem ops_part20_asc : StableHlo.AscTo 1488 (ops_part20 : List (HloOp τ sig (Elt F))) 1556 := by
  unfold ops_part20; asc_tac

end Cert.ReferenceIdeal.Hand

end
-- ==== Proof.Ref.A21.lean ====
import proofs.«146970_j35948876268088_1_alg».proof.Proof.Ref.W21
import proofs.«146970_j35948876268088_1_alg».proof.Proof.LibAscending

noncomputable section

namespace Cert.ReferenceIdeal.Hand

open Cert.ReferenceIdeal Idealize.ShloMosaic Idealize.ShloMosaic.TcCoe Idealize.SL.Sem Idealize.ShloMosaic.StableHlo

variable {F : FTy → Type} [FloatOps F]

variable [Facts]
open Facts₀ Facts

set_option maxRecDepth 16384 in
set_option maxHeartbeats 4000000 in
/-- The 84 operations of window 21 write one HBM buffer each, of indices increasing from 1556 to 1639. -/
theorem ops_part21_asc : StableHlo.AscTo 1556 (ops_part21 : List (HloOp τ sig (Elt F))) 1640 := by
  unfold ops_part21; asc_tac

end Cert.ReferenceIdeal.Hand

end
-- ==== Proof.Ref.A22.lean ====
import proofs.«146970_j35948876268088_1_alg».proof.Proof.Ref.W22
import proofs.«146970_j35948876268088_1_alg».proof.Proof.LibAscending

noncomputable section

namespace Cert.ReferenceIdeal.Hand

open Cert.ReferenceIdeal Idealize.ShloMosaic Idealize.ShloMosaic.TcCoe Idealize.SL.Sem Idealize.ShloMosaic.StableHlo

variable {F : FTy → Type} [FloatOps F]

variable [Facts]
open Facts₀ Facts

set_option maxRecDepth 16384 in
set_option maxHeartbeats 4000000 in
/-- The 76 operations of window 22 write one HBM buffer each, of indices increasing from 1640 to 1715. -/
theorem ops_part22_asc : StableHlo.AscTo 1640 (ops_part22 : List (HloOp τ sig (Elt F))) 1716 := by
  unfold ops_part22; asc_tac

end Cert.ReferenceIdeal.Hand

end
-- ==== Proof.Ref.A23.lean ====
import proofs.«146970_j35948876268088_1_alg».proof.Proof.Ref.W23
import proofs.«146970_j35948876268088_1_alg».proof.Proof.LibAscending

noncomputable section

namespace Cert.ReferenceIdeal.Hand

open Cert.ReferenceIdeal Idealize.ShloMosaic Idealize.ShloMosaic.TcCoe Idealize.SL.Sem Idealize.ShloMosaic.StableHlo

variable {F : FTy → Type} [FloatOps F]

variable [Facts]
open Facts₀ Facts

set_option maxRecDepth 16384 in
set_option maxHeartbeats 4000000 in
/-- The 82 operations of window 23 write one HBM buffer each, of indices increasing from 1716 to 1797. -/
theorem ops_part23_asc : StableHlo.AscTo 1716 (ops_part23 : List (HloOp τ sig (Elt F))) 1798 := by
  unfold ops_part23; asc_tac

end Cert.ReferenceIdeal.Hand

end
-- ==== Proof.Ref.A24.lean ====
import proofs.«146970_j35948876268088_1_alg».proof.Proof.Ref.W24
import proofs.«146970_j35948876268088_1_alg».proof.Proof.LibAscending

noncomputable section

namespace Cert.ReferenceIdeal.Hand

open Cert.ReferenceIdeal Idealize.ShloMosaic Idealize.ShloMosaic.TcCoe Idealize.SL.Sem Idealize.ShloMosaic.StableHlo

variable {F : FTy → Type} [FloatOps F]

variable [Facts]
open Facts₀ Facts

set_option maxRecDepth 16384 in
set_option maxHeartbeats 4000000 in
/-- The 82 operations of window 24 write one HBM buffer each, of indices increasing from 1798 to 1879. -/
theorem ops_part24_asc : StableHlo.AscTo 1798 (ops_part24 : List (HloOp τ sig (Elt F))) 1880 := by
  unfold ops_part24; asc_tac

end Cert.ReferenceIdeal.Hand

end
-- ==== Proof.Ref.A25.lean ====
import proofs.«146970_j35948876268088_1_alg».proof.Proof.Ref.W25
import proofs.«146970_j35948876268088_1_alg».proof.Proof.LibAscending

noncomputable section

namespace Cert.ReferenceIdeal.Hand

open Cert.ReferenceIdeal Idealize.ShloMosaic Idealize.ShloMosaic.TcCoe Idealize.SL.Sem Idealize.ShloMosaic.StableHlo

variable {F : FTy → Type} [FloatOps F]

variable [Facts]
open Facts₀ Facts

set_option maxRecDepth 16384 in
set_option maxHeartbeats 4000000 in
/-- The 62 operations of window 25 write one HBM buffer each, of indices increasing from 1880 to 1941. -/
theorem ops_part25_asc : StableHlo.AscTo 1880 (ops_part25 : List (HloOp τ sig (Elt F))) 1942 := by
  unfold ops_part25; asc_tac

end Cert.ReferenceIdeal.Hand

end
-- ==== Proof.Ref.A26.lean ====
import proofs.«146970_j35948876268088_1_alg».proof.Proof.Ref.W26
import proofs.«146970_j35948876268088_1_alg».proof.Proof.LibAscending

noncomputable section

namespace Cert.ReferenceIdeal.Hand

open Cert.ReferenceIdeal Idealize.ShloMosaic Idealize.ShloMosaic.TcCoe Idealize.SL.Sem Idealize.ShloMosaic.StableHlo

variable {F : FTy → Type} [FloatOps F]

variable [Facts]
open Facts₀ Facts

set_option maxRecDepth 16384 in
set_option maxHeartbeats 4000000 in
/-- The 68 operations of window 26 write one HBM buffer each, of indices increasing from 1942 to 2009. -/
theorem ops_part26_asc : StableHlo.AscTo 1942 (ops_part26 : List (HloOp τ sig (Elt F))) 2010 := by
  unfold ops_part26; asc_tac

end Cert.ReferenceIdeal.Hand

end
-- ==== Proof.Ref.A27.lean ====
import proofs.«146970_j35948876268088_1_alg».proof.Proof.Ref.W27
import proofs.«146970_j35948876268088_1_alg».proof.Proof.LibAscending

noncomputable section

namespace Cert.ReferenceIdeal.Hand

open Cert.ReferenceIdeal Idealize.ShloMosaic Idealize.ShloMosaic.TcCoe Idealize.SL.Sem Idealize.ShloMosaic.StableHlo

variable {F : FTy → Type} [FloatOps F]

variable [Facts]
open Facts₀ Facts

set_option maxRecDepth 16384 in
set_option maxHeartbeats 4000000 in
/-- The 96 operations of window 27 write one HBM buffer each, of indices increasing from 2010 to 2105. -/
theorem ops_part27_asc : StableHlo.AscTo 2010 (ops_part27 : List (HloOp τ sig (Elt F))) 2106 := by
  unfold ops_part27; asc_tac

end Cert.ReferenceIdeal.Hand

end
-- ==== Proof.Ref.A28.lean ====
import proofs.«146970_j35948876268088_1_alg».proof.Proof.Ref.W28
import proofs.«146970_j35948876268088_1_alg».proof.Proof.LibAscending

noncomputable section

namespace Cert.ReferenceIdeal.Hand

open Cert.ReferenceIdeal Idealize.ShloMosaic Idealize.ShloMosaic.TcCoe Idealize.SL.Sem Idealize.ShloMosaic.StableHlo

variable {F : FTy → Type} [FloatOps F]

variable [Facts]
open Facts₀ Facts

set_option maxRecDepth 16384 in
set_option maxHeartbeats 4000000 in
/-- The 62 operations of window 28 write one HBM buffer each, of indices increasing from 2106 to 2167. -/
theorem ops_part28_asc : StableHlo.AscTo 2106 (ops_part28 : List (HloOp τ sig (Elt F))) 2168 := by
  unfold ops_part28; asc_tac

end Cert.ReferenceIdeal.Hand

end
-- ==== Proof.Ref.A29.lean ====
import proofs.«146970_j35948876268088_1_alg».proof.Proof.Ref.W29
import proofs.«146970_j35948876268088_1_alg».proof.Proof.LibAscending

noncomputable section

namespace Cert.ReferenceIdeal.Hand

open Cert.ReferenceIdeal Idealize.ShloMosaic Idealize.ShloMosaic.TcCoe Idealize.SL.Sem Idealize.ShloMosaic.StableHlo

variable {F : FTy → Type} [FloatOps F]

variable [Facts]
open Facts₀ Facts

set_option maxRecDepth 16384 in
set_option maxHeartbeats 4000000 in
/-- The 88 operations of window 29 write one HBM buffer each, of indices increasing from 2168 to 2255. -/
theorem ops_part29_asc : StableHlo.AscTo 2168 (ops_part29 : List (HloOp τ sig (Elt F))) 2256 := by
  unfold ops_part29; asc_tac

end Cert.ReferenceIdeal.Hand

end
-- ==== Proof.Ref.A30.lean ====
import proofs.«146970_j35948876268088_1_alg».proof.Proof.Ref.W30
import proofs.«146970_j35948876268088_1_alg».proof.Proof.LibAscending

noncomputable section

namespace Cert.ReferenceIdeal.Hand

open Cert.ReferenceIdeal Idealize.ShloMosaic Idealize.ShloMosaic.TcCoe Idealize.SL.Sem Idealize.ShloMosaic.StableHlo

variable {F : FTy → Type} [FloatOps F]

variable [Facts]
open Facts₀ Facts

set_option maxRecDepth 16384 in
set_option maxHeartbeats 4000000 in
/-- The 76 operations of window 30 write one HBM buffer each, of indices increasing from 2256 to 2331. -/
theorem ops_part30_asc : StableHlo.AscTo 2256 (ops_part30 : List (HloOp τ sig (Elt F))) 2332 := by
  unfold ops_part30; asc_tac

end Cert.ReferenceIdeal.Hand

end
-- ==== Proof.Ref.A31.lean ====
import proofs.«146970_j35948876268088_1_alg».proof.Proof.Ref.W31
import proofs.«146970_j35948876268088_1_alg».proof.Proof.LibAscending

noncomputable section

namespace Cert.ReferenceIdeal.Hand

open Cert.ReferenceIdeal Idealize.ShloMosaic Idealize.ShloMosaic.TcCoe Idealize.SL.Sem Idealize.ShloMosaic.StableHlo

variable {F : FTy → Type} [FloatOps F]

variable [Facts]
open Facts₀ Facts

set_option maxRecDepth 16384 in
set_option maxHeartbeats 4000000 in
/-- The 70 operations of window 31 write one HBM buffer each, of indices increasing from 2332 to 2401. -/
theorem ops_part31_asc : StableHlo.AscTo 2332 (ops_part31 : List (HloOp τ sig (Elt F))) 2402 := by
  unfold ops_part31; asc_tac

end Cert.ReferenceIdeal.Hand

end
-- ==== Proof.Ref.A32.lean ====
import proofs.«146970_j35948876268088_1_alg».proof.Proof.Ref.W32
import proofs.«146970_j35948876268088_1_alg».proof.Proof.LibAscending

noncomputable section

namespace Cert.ReferenceIdeal.Hand

open Cert.ReferenceIdeal Idealize.ShloMosaic Idealize.ShloMosaic.TcCoe Idealize.SL.Sem Idealize.ShloMosaic.StableHlo

variable {F : FTy → Type} [FloatOps F]

variable [Facts]
open Facts₀ Facts

set_option maxRecDepth 16384 in
set_option maxHeartbeats 4000000 in
/-- The 82 operations of window 32 write one HBM buffer each, of indices increasing from 2402 to 2483. -/
theorem ops_part32_asc : StableHlo.AscTo 2402 (ops_part32 : List (HloOp τ sig (Elt F))) 2484 := by
  unfold ops_part32; asc_tac

end Cert.ReferenceIdeal.Hand

end
-- ==== Proof.Ref.A33.lean ====
import proofs.«146970_j35948876268088_1_alg».proof.Proof.Ref.W33
import proofs.«146970_j35948876268088_1_alg».proof.Proof.LibAscending

noncomputable section

namespace Cert.ReferenceIdeal.Hand

open Cert.ReferenceIdeal Idealize.ShloMosaic Idealize.ShloMosaic.TcCoe Idealize.SL.Sem Idealize.ShloMosaic.StableHlo

variable {F : FTy → Type} [FloatOps F]

variable [Facts]
open Facts₀ Facts

set_option maxRecDepth 16384 in
set_option maxHeartbeats 4000000 in
/-- The 76 operations of window 33 write one HBM buffer each, of indices increasing from 2484 to 2559. -/
theorem ops_part33_asc : StableHlo.AscTo 2484 (ops_part33 : List (HloOp τ sig (Elt F))) 2560 := by
  unfold ops_part33; asc_tac

end Cert.ReferenceIdeal.Hand

end
-- ==== Proof.Ref.A34.lean ====
import proofs.«146970_j35948876268088_1_alg».proof.Proof.Ref.W34
import proofs.«146970_j35948876268088_1_alg».proof.Proof.LibAscending

noncomputable section

namespace Cert.ReferenceIdeal.Hand

open Cert.ReferenceIdeal Idealize.ShloMosaic Idealize.ShloMosaic.TcCoe Idealize.SL.Sem Idealize.ShloMosaic.StableHlo

variable {F : FTy → Type} [FloatOps F]

variable [Facts]
open Facts₀ Facts

set_option maxRecDepth 16384 in
set_option maxHeartbeats 4000000 in
/-- The 88 operations of window 34 write one HBM buffer each, of indices increasing from 2560 to 2647. -/
theorem ops_part34_asc : StableHlo.AscTo 2560 (ops_part34 : List (HloOp τ sig (Elt F))) 2648 := by
  unfold ops_part34; asc_tac

end Cert.ReferenceIdeal.Hand

end
-- ==== Proof.Ref.A35.lean ====
import proofs.«146970_j35948876268088_1_alg».proof.Proof.Ref.W35
import proofs.«146970_j35948876268088_1_alg».proof.Proof.LibAscending

noncomputable section

namespace Cert.ReferenceIdeal.Hand

open Cert.ReferenceIdeal Idealize.ShloMosaic Idealize.ShloMosaic.TcCoe Idealize.SL.Sem Idealize.ShloMosaic.StableHlo

variable {F : FTy → Type} [FloatOps F]

variable [Facts]
open Facts₀ Facts

set_option maxRecDepth 16384 in
set_option maxHeartbeats 4000000 in
/-- The 118 operations of window 35 write one HBM buffer each, of indices increasing from 2648 to 2765. -/
theorem ops_part35_asc : StableHlo.AscTo 2648 (ops_part35 : List (HloOp τ sig (Elt F))) 2766 := by
  unfold ops_part35; asc_tac

end Cert.ReferenceIdeal.Hand

end
-- ==== Proof.Ref.A36.lean ====
import proofs.«146970_j35948876268088_1_alg».proof.Proof.Ref.W36
import proofs.«146970_j35948876268088_1_alg».proof.Proof.LibAscending

noncomputable section

namespace Cert.ReferenceIdeal.Hand

open Cert.ReferenceIdeal Idealize.ShloMosaic Idealize.ShloMosaic.TcCoe Idealize.SL.Sem Idealize.ShloMosaic.StableHlo

variable {F : FTy → Type} [FloatOps F]

variable [Facts]
open Facts₀ Facts

set_option maxRecDepth 16384 in
set_option maxHeartbeats 4000000 in
/-- The 60 operations of window 36 write one HBM buffer each, of indices increasing from 2766 to 2825. -/
theorem ops_part36_asc : StableHlo.AscTo 2766 (ops_part36 : List (HloOp τ sig (Elt F))) 2826 := by
  unfold ops_part36; asc_tac

end Cert.ReferenceIdeal.Hand

end
-- ==== Proof.Ref.A37.lean ====
import proofs.«146970_j35948876268088_1_alg».proof.Proof.Ref.W37
import proofs.«146970_j35948876268088_1_alg».proof.Proof.LibAscending

noncomputable section

namespace Cert.ReferenceIdeal.Hand

open Cert.ReferenceIdeal Idealize.ShloMosaic Idealize.ShloMosaic.TcCoe Idealize.SL.Sem Idealize.ShloMosaic.StableHlo

variable {F : FTy → Type} [FloatOps F]

variable [Facts]
open Facts₀ Facts

set_option maxRecDepth 16384 in
set_option maxHeartbeats 4000000 in
/-- The 68 operations of window 37 write one HBM buffer each, of indices increasing from 2826 to 2893. -/
theorem ops_part37_asc : StableHlo.AscTo 2826 (ops_part37 : List (HloOp τ sig (Elt F))) 2894 := by
  unfold ops_part37; asc_tac

end Cert.ReferenceIdeal.Hand

end
-- ==== Proof.Ref.A38.lean ====
import proofs.«146970_j35948876268088_1_alg».proof.Proof.Ref.W38
import proofs.«146970_j35948876268088_1_alg».proof.Proof.LibAscending

noncomputable section

namespace Cert.ReferenceIdeal.Hand

open Cert.ReferenceIdeal Idealize.ShloMosaic Idealize.ShloMosaic.TcCoe Idealize.SL.Sem Idealize.ShloMosaic.StableHlo

variable {F : FTy → Type} [FloatOps F]

variable [Facts]
open Facts₀ Facts

set_option maxRecDepth 16384 in
set_option maxHeartbeats 4000000 in
/-- The 84 operations of window 38 write one HBM buffer each, of indices increasing from 2894 to 2977. -/
theorem ops_part38_asc : StableHlo.AscTo 2894 (ops_part38 : List (HloOp τ sig (Elt F))) 2978 := by
  unfold ops_part38; asc_tac

end Cert.ReferenceIdeal.Hand

end
-- ==== Proof.Ref.A39.lean ====
import proofs.«146970_j35948876268088_1_alg».proof.Proof.Ref.W39
import proofs.«146970_j35948876268088_1_alg».proof.Proof.LibAscending

noncomputable section

namespace Cert.ReferenceIdeal.Hand

open Cert.ReferenceIdeal Idealize.ShloMosaic Idealize.ShloMosaic.TcCoe Idealize.SL.Sem Idealize.ShloMosaic.StableHlo

variable {F : FTy → Type} [FloatOps F]

variable [Facts]
open Facts₀ Facts

set_option maxRecDepth 16384 in
set_option maxHeartbeats 4000000 in
/-- The 74 operations of window 39 write one HBM buffer each, of indices increasing from 2978 to 3051. -/
theorem ops_part39_asc : StableHlo.AscTo 2978 (ops_part39 : List (HloOp τ sig (Elt F))) 3052 := by
  unfold ops_part39; asc_tac

end Cert.ReferenceIdeal.Hand

end
-- ==== Proof.Ref.A40.lean ====
import proofs.«146970_j35948876268088_1_alg».proof.Proof.Ref.W40
import proofs.«146970_j35948876268088_1_alg».proof.Proof.LibAscending

noncomputable section

namespace Cert.ReferenceIdeal.Hand

open Cert.ReferenceIdeal Idealize.ShloMosaic Idealize.ShloMosaic.TcCoe Idealize.SL.Sem Idealize.ShloMosaic.StableHlo

variable {F : FTy → Type} [FloatOps F]

variable [Facts]
open Facts₀ Facts

set_option maxRecDepth 16384 in
set_option maxHeartbeats 4000000 in
/-- The 68 operations of window 40 write one HBM buffer each, of indices increasing from 3052 to 3119. -/
theorem ops_part40_asc : StableHlo.AscTo 3052 (ops_part40 : List (HloOp τ sig (Elt F))) 3120 := by
  unfold ops_part40; asc_tac

end Cert.ReferenceIdeal.Hand

end
-- ==== Proof.Ref.A41.lean ====
import proofs.«146970_j35948876268088_1_alg».proof.Proof.Ref.W41
import proofs.«146970_j35948876268088_1_alg».proof.Proof.LibAscending

noncomputable section

namespace Cert.ReferenceIdeal.Hand

open Cert.ReferenceIdeal Idealize.ShloMosaic Idealize.ShloMosaic.TcCoe Idealize.SL.Sem Idealize.ShloMosaic.StableHlo

variable {F : FTy → Type} [FloatOps F]

variable [Facts]
open Facts₀ Facts

set_option maxRecDepth 16384 in
set_option maxHeartbeats 4000000 in
/-- The 82 operations of window 41 write one HBM buffer each, of indices increasing from 3120 to 3201. -/
theorem ops_part41_asc : StableHlo.AscTo 3120 (ops_part41 : List (HloOp τ sig (Elt F))) 3202 := by
  unfold ops_part41; asc_tac

end Cert.ReferenceIdeal.Hand

end
-- ==== Proof.Ref.A42.lean ====
import proofs.«146970_j35948876268088_1_alg».proof.Proof.Ref.W42
import proofs.«146970_j35948876268088_1_alg».proof.Proof.LibAscending

noncomputable section

namespace Cert.ReferenceIdeal.Hand

open Cert.ReferenceIdeal Idealize.ShloMosaic Idealize.ShloMosaic.TcCoe Idealize.SL.Sem Idealize.ShloMosaic.StableHlo

variable {F : FTy → Type} [FloatOps F]

variable [Facts]
open Facts₀ Facts

set_option maxRecDepth 16384 in
set_option maxHeartbeats 4000000 in
/-- The 76 operations of window 42 write one HBM buffer each, of indices increasing from 3202 to 3277. -/
theorem ops_part42_asc : StableHlo.AscTo 3202 (ops_part42 : List (HloOp τ sig (Elt F))) 3278 := by
  unfold ops_part42; asc_tac

end Cert.ReferenceIdeal.Hand

end
-- ==== Proof.Ref.A43.lean ====
import proofs.«146970_j35948876268088_1_alg».proof.Proof.Ref.W43
import proofs.«146970_j35948876268088_1_alg».proof.Proof.LibAscending

noncomputable section

namespace Cert.ReferenceIdeal.Hand

open Cert.ReferenceIdeal Idealize.ShloMosaic Idealize.ShloMosaic.TcCoe Idealize.SL.Sem Idealize.ShloMosaic.StableHlo

variable {F : FTy → Type} [FloatOps F]

variable [Facts]
open Facts₀ Facts

set_option maxRecDepth 16384 in
set_option maxHeartbeats 4000000 in
/-- The 62 operations of window 43 write one HBM buffer each, of indices increasing from 3278 to 3339. -/
theorem ops_part43_asc : StableHlo.AscTo 3278 (ops_part43 : List (HloOp τ sig (Elt F))) 3340 := by
  unfold ops_part43; asc_tac

end Cert.ReferenceIdeal.Hand

end
-- ==== Proof.Ref.A44.lean ====
import proofs.«146970_j35948876268088_1_alg».proof.Proof.Ref.W44
import proofs.«146970_j35948876268088_1_alg».proof.Proof.LibAscending

noncomputable section

namespace Cert.ReferenceIdeal.Hand

open Cert.ReferenceIdeal Idealize.ShloMosaic Idealize.ShloMosaic.TcCoe Idealize.SL.Sem Idealize.ShloMosaic.StableHlo

variable {F : FTy → Type} [FloatOps F]

variable [Facts]
open Facts₀ Facts

set_option maxRecDepth 16384 in
set_option maxHeartbeats 4000000 in
/-- The 82 operations of window 44 write one HBM buffer each, of indices increasing from 3340 to 3421. -/
theorem ops_part44_asc : StableHlo.AscTo 3340 (ops_part44 : List (HloOp τ sig (Elt F))) 3422 := by
  unfold ops_part44; asc_tac

end Cert.ReferenceIdeal.Hand

end
-- ==== Proof.Ref.A45.lean ====
import proofs.«146970_j35948876268088_1_alg».proof.Proof.Ref.W45
import proofs.«146970_j35948876268088_1_alg».proof.Proof.LibAscending

noncomputable section

namespace Cert.ReferenceIdeal.Hand

open Cert.ReferenceIdeal Idealize.ShloMosaic Idealize.ShloMosaic.TcCoe Idealize.SL.Sem Idealize.ShloMosaic.StableHlo

variable {F : FTy → Type} [FloatOps F]

variable [Facts]
open Facts₀ Facts

set_option maxRecDepth 16384 in
set_option maxHeartbeats 4000000 in
/-- The 65 operations of window 45 write one HBM buffer each, of indices increasing from 3422 to 3486. -/
theorem ops_part45_asc : StableHlo.AscTo 3422 (ops_part45 : List (HloOp τ sig (Elt F))) 3487 := by
  unfold ops_part45; asc_tac

end Cert.ReferenceIdeal.Hand

end
-- ==== Proof.Ref.Asc.lean ====
/-
  The reference's operations are in single-assignment order. Each window of @main writes HBM buffers of strictly
  increasing indices within its own interval (the forty-six window certificates), and the intervals abut: window K's
  ends where window K+1's begins. So the concatenation of the windows writes strictly increasing indices from 12, the
  first index after the twelve argument buffers, up to 3486, the result buffer's.
-/
import proofs.«146970_j35948876268088_1_alg».proof.Proof.Ref.A00
import proofs.«146970_j35948876268088_1_alg».proof.Proof.Ref.A01
import proofs.«146970_j35948876268088_1_alg».proof.Proof.Ref.A02
import proofs.«146970_j35948876268088_1_alg».proof.Proof.Ref.A03
import proofs.«146970_j35948876268088_1_alg».proof.Proof.Ref.A04
import proofs.«146970_j35948876268088_1_alg».proof.Proof.Ref.A05
import proofs.«146970_j35948876268088_1_alg».proof.Proof.Ref.A06
import proofs.«146970_j35948876268088_1_alg».proof.Proof.Ref.A07
import proofs.«146970_j35948876268088_1_alg».proof.Proof.Ref.A08
import proofs.«146970_j35948876268088_1_alg».proof.Proof.Ref.A09
import proofs.«146970_j35948876268088_1_alg».proof.Proof.Ref.A10
import proofs.«146970_j35948876268088_1_alg».proof.Proof.Ref.A11
import proofs.«146970_j35948876268088_1_alg».proof.Proof.Ref.A12
import proofs.«146970_j35948876268088_1_alg».proof.Proof.Ref.A13
import proofs.«146970_j35948876268088_1_alg».proof.Proof.Ref.A14
import proofs.«146970_j35948876268088_1_alg».proof.Proof.Ref.A15
import proofs.«146970_j35948876268088_1_alg».proof.Proof.Ref.A16
import proofs.«146970_j35948876268088_1_alg».proof.Proof.Ref.A17
import proofs.«146970_j35948876268088_1_alg».proof.Proof.Ref.A18
import proofs.«146970_j35948876268088_1_alg».proof.Proof.Ref.A19
import proofs.«146970_j35948876268088_1_alg».proof.Proof.Ref.A20
import proofs.«146970_j35948876268088_1_alg».proof.Proof.Ref.A21
import proofs.«146970_j35948876268088_1_alg».proof.Proof.Ref.A22
import proofs.«146970_j35948876268088_1_alg».proof.Proof.Ref.A23
import proofs.«146970_j35948876268088_1_alg».proof.Proof.Ref.A24
import proofs.«146970_j35948876268088_1_alg».proof.Proof.Ref.A25
import proofs.«146970_j35948876268088_1_alg».proof.Proof.Ref.A26
import proofs.«146970_j35948876268088_1_alg».proof.Proof.Ref.A27
import proofs.«146970_j35948876268088_1_alg».proof.Proof.Ref.A28
import proofs.«146970_j35948876268088_1_alg».proof.Proof.Ref.A29
import proofs.«146970_j35948876268088_1_alg».proof.Proof.Ref.A30
import proofs.«146970_j35948876268088_1_alg».proof.Proof.Ref.A31
import proofs.«146970_j35948876268088_1_alg».proof.Proof.Ref.A32
import proofs.«146970_j35948876268088_1_alg».proof.Proof.Ref.A33
import proofs.«146970_j35948876268088_1_alg».proof.Proof.Ref.A34
import proofs.«146970_j35948876268088_1_alg».proof.Proof.Ref.A35
import proofs.«146970_j35948876268088_1_alg».proof.Proof.Ref.A36
import proofs.«146970_j35948876268088_1_alg».proof.Proof.Ref.A37
import proofs.«146970_j35948876268088_1_alg».proof.Proof.Ref.A38
import proofs.«146970_j35948876268088_1_alg».proof.Proof.Ref.A39
import proofs.«146970_j35948876268088_1_alg».proof.Proof.Ref.A40
import proofs.«146970_j35948876268088_1_alg».proof.Proof.Ref.A41
import proofs.«146970_j35948876268088_1_alg».proof.Proof.Ref.A42
import proofs.«146970_j35948876268088_1_alg».proof.Proof.Ref.A43
import proofs.«146970_j35948876268088_1_alg».proof.Proof.Ref.A44
import proofs.«146970_j35948876268088_1_alg».proof.Proof.Ref.A45
import proofs.«146970_j35948876268088_1_alg».proof.Proof.Ref.Frame

noncomputable section

namespace Cert.ReferenceIdeal.Hand

open Cert.ReferenceIdeal Idealize.ShloMosaic Idealize.ShloMosaic.TcCoe Idealize.SL.Sem Idealize.ShloMosaic.StableHlo

variable {F : FTy → Type} [FloatOps F]

variable [Facts]
open Facts₀ Facts

/-- @main's operations write one HBM buffer each, of strictly increasing indices within [12, 3487): the windows'
    intervals [12, 72), [72, 132), …, [3422, 3487) joined end to end. -/
theorem ops_ascTo : StableHlo.AscTo 12 (ops : List (HloOp τ sig (Elt F))) 3487 := by
  rw [ops_def]
  exact
    ops_part0_asc.append_to (ops_part1_asc.append_to (ops_part2_asc.append_to (ops_part3_asc.append_to
    (ops_part4_asc.append_to (ops_part5_asc.append_to (ops_part6_asc.append_to (ops_part7_asc.append_to
    (ops_part8_asc.append_to (ops_part9_asc.append_to (ops_part10_asc.append_to (ops_part11_asc.append_to
    (ops_part12_asc.append_to (ops_part13_asc.append_to (ops_part14_asc.append_to (ops_part15_asc.append_to
    (ops_part16_asc.append_to (ops_part17_asc.append_to (ops_part18_asc.append_to (ops_part19_asc.append_to
    (ops_part20_asc.append_to (ops_part21_asc.append_to (ops_part22_asc.append_to (ops_part23_asc.append_to
    (ops_part24_asc.append_to (ops_part25_asc.append_to (ops_part26_asc.append_to (ops_part27_asc.append_to
    (ops_part28_asc.append_to (ops_part29_asc.append_to (ops_part30_asc.append_to (ops_part31_asc.append_to
    (ops_part32_asc.append_to (ops_part33_asc.append_to (ops_part34_asc.append_to (ops_part35_asc.append_to
    (ops_part36_asc.append_to (ops_part37_asc.append_to (ops_part38_asc.append_to (ops_part39_asc.append_to
    (ops_part40_asc.append_to (ops_part41_asc.append_to (ops_part42_asc.append_to (ops_part43_asc.append_to
    (ops_part44_asc.append_to (ops_part45_asc)))))))))))))))))))))))))))))))))))))))))))))

/-- @main's operations write HBM buffers of strictly increasing indices, all at least 12. -/
theorem ops_asc : StableHlo.Ascending 12 (ops : List (HloOp τ sig (Elt F))) :=
  ops_ascTo.ascending

end Cert.ReferenceIdeal.Hand

end
-- ==== Proof.Ref.Mem.lean ====
import proofs.«146970_j35948876268088_1_alg».proof.Proof.Ref.Frame

noncomputable section

namespace Cert.ReferenceIdeal.Hand

open Cert.ReferenceIdeal Idealize.ShloMosaic Idealize.ShloMosaic.TcCoe Idealize.SL.Sem Idealize.ShloMosaic.StableHlo

variable {F : FTy → Type} [FloatOps F]

variable [Facts]
open Facts₀ Facts

/-- Window 0's list sits first in the concatenation. -/
theorem mem_ops_part0 {op : HloOp τ sig (Elt F)} (h : op ∈ (ops_part0 : List (HloOp τ sig (Elt F)))) : op ∈ (ops : List (HloOp τ sig (Elt F))) := by
  rw [ops_def]
  exact List.mem_append_left _ h

/-- Window 1's list sits after 1 other in the concatenation. -/
theorem mem_ops_part1 {op : HloOp τ sig (Elt F)} (h : op ∈ (ops_part1 : List (HloOp τ sig (Elt F)))) : op ∈ (ops : List (HloOp τ sig (Elt F))) := by
  rw [ops_def]
  exact List.mem_append_right _ (List.mem_append_left _ h)

/-- Window 2's list sits after 2 others in the concatenation. -/
theorem mem_ops_part2 {op : HloOp τ sig (Elt F)} (h : op ∈ (ops_part2 : List (HloOp τ sig (Elt F)))) : op ∈ (ops : List (HloOp τ sig (Elt F))) := by
  rw [ops_def]
  exact List.mem_append_right _ (List.mem_append_right _ (List.mem_append_left _ h))

/-- Window 3's list sits after 3 others in the concatenation. -/
theorem mem_ops_part3 {op : HloOp τ sig (Elt F)} (h : op ∈ (ops_part3 : List (HloOp τ sig (Elt F)))) : op ∈ (ops : List (HloOp τ sig (Elt F))) := by
  rw [ops_def]
  exact List.mem_append_right _ (List.mem_append_right _ (List.mem_append_right _ (List.mem_append_left _ h)))

/-- Window 4's list sits after 4 others in the concatenation. -/
theorem mem_ops_part4 {op : HloOp τ sig (Elt F)} (h : op ∈ (ops_part4 : List (HloOp τ sig (Elt F)))) : op ∈ (ops : List (HloOp τ sig (Elt F))) := by
  rw [ops_def]
  exact List.mem_append_right _ (List.mem_append_right _ (List.mem_append_right _ (List.mem_append_right _ (List.mem_append_left _ h))))

/-- Window 5's list sits after 5 others in the concatenation. -/
theorem mem_ops_part5 {op : HloOp τ sig (Elt F)} (h : op ∈ (ops_part5 : List (HloOp τ sig (Elt F)))) : op ∈ (ops : List (HloOp τ sig (Elt F))) := by
  rw [ops_def]
  exact List.mem_append_right _ (List.mem_append_right _ (List.mem_append_right _ (List.mem_append_right _ (List.mem_append_right _ (List.mem_append_left _ h)))))

/-- Window 6's list sits after 6 others in the concatenation. -/
theorem mem_ops_part6 {op : HloOp τ sig (Elt F)} (h : op ∈ (ops_part6 : List (HloOp τ sig (Elt F)))) : op ∈ (ops : List (HloOp τ sig (Elt F))) := by
  rw [ops_def]
  exact List.mem_append_right _ (List.mem_append_right _ (List.mem_append_right _ (List.mem_append_right _ (List.mem_append_right _ (List.mem_append_right _ (List.mem_append_left _ h))))))

/-- Window 7's list sits after 7 others in the concatenation. -/
theorem mem_ops_part7 {op : HloOp τ sig (Elt F)} (h : op ∈ (ops_part7 : List (HloOp τ sig (Elt F)))) : op ∈ (ops : List (HloOp τ sig (Elt F))) := by
  rw [ops_def]
  exact List.mem_append_right _ (List.mem_append_right _ (List.mem_append_right _ (List.mem_append_right _ (List.mem_append_right _ (List.mem_append_right _ (List.mem_append_right _ (List.mem_append_left _ h)))))))

/-- Window 8's list sits after 8 others in the concatenation. -/
theorem mem_ops_part8 {op : HloOp τ sig (Elt F)} (h : op ∈ (ops_part8 : List (HloOp τ sig (Elt F)))) : op ∈ (ops : List (HloOp τ sig (Elt F))) := by
  rw [ops_def]
  exact List.mem_append_right _ (List.mem_append_right _ (List.mem_append_right _ (List.mem_append_right _ (List.mem_append_right _ (List.mem_append_right _ (List.mem_append_right _ (List.mem_append_right _ (List.mem_append_left _ h))))))))

/-- Window 9's list sits after 9 others in the concatenation. -/
theorem mem_ops_part9 {op : HloOp τ sig (Elt F)} (h : op ∈ (ops_part9 : List (HloOp τ sig (Elt F)))) : op ∈ (ops : List (HloOp τ sig (Elt F))) := by
  rw [ops_def]
  exact List.mem_append_right _ (List.mem_append_right _ (List.mem_append_right _ (List.mem_append_right _ (List.mem_append_right _ (List.mem_append_right _ (List.mem_append_right _ (List.mem_append_right _ (List.mem_append_right _ (List.mem_append_left _ h)))))))))

/-- Window 10's list sits after 10 others in the concatenation. -/
theorem mem_ops_part10 {op : HloOp τ sig (Elt F)} (h : op ∈ (ops_part10 : List (HloOp τ sig (Elt F)))) : op ∈ (ops : List (HloOp τ sig (Elt F))) := by
  rw [ops_def]
  exact List.mem_append_right _ (List.mem_append_right _ (List.mem_append_right _ (List.mem_append_right _ (List.mem_append_right _ (List.mem_append_right _ (List.mem_append_right _ (List.mem_append_right _ (List.mem_append_right _ (List.mem_append_right _ (List.mem_append_left _ h))))))))))

/-- Window 11's list sits after 11 others in the concatenation. -/
theorem mem_ops_part11 {op : HloOp τ sig (Elt F)} (h : op ∈ (ops_part11 : List (HloOp τ sig (Elt F)))) : op ∈ (ops : List (HloOp τ sig (Elt F))) := by
  rw [ops_def]
  exact List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_left _ h)))))))))))

/-- Window 12's list sits after 12 others in the concatenation. -/
theorem mem_ops_part12 {op : HloOp τ sig (Elt F)} (h : op ∈ (ops_part12 : List (HloOp τ sig (Elt F)))) : op ∈ (ops : List (HloOp τ sig (Elt F))) := by
  rw [ops_def]
  exact List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_left _ h))))))))))))

/-- Window 13's list sits after 13 others in the concatenation. -/
theorem mem_ops_part13 {op : HloOp τ sig (Elt F)} (h : op ∈ (ops_part13 : List (HloOp τ sig (Elt F)))) : op ∈ (ops : List (HloOp τ sig (Elt F))) := by
  rw [ops_def]
  exact List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_left _ h)))))))))))))

/-- Window 14's list sits after 14 others in the concatenation. -/
theorem mem_ops_part14 {op : HloOp τ sig (Elt F)} (h : op ∈ (ops_part14 : List (HloOp τ sig (Elt F)))) : op ∈ (ops : List (HloOp τ sig (Elt F))) := by
  rw [ops_def]
  exact List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_left _ h))))))))))))))

/-- Window 15's list sits after 15 others in the concatenation. -/
theorem mem_ops_part15 {op : HloOp τ sig (Elt F)} (h : op ∈ (ops_part15 : List (HloOp τ sig (Elt F)))) : op ∈ (ops : List (HloOp τ sig (Elt F))) := by
  rw [ops_def]
  exact List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_left _ h)))))))))))))))

/-- Window 16's list sits after 16 others in the concatenation. -/
theorem mem_ops_part16 {op : HloOp τ sig (Elt F)} (h : op ∈ (ops_part16 : List (HloOp τ sig (Elt F)))) : op ∈ (ops : List (HloOp τ sig (Elt F))) := by
  rw [ops_def]
  exact List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_left _ h))))))))))))))))

/-- Window 17's list sits after 17 others in the concatenation. -/
theorem mem_ops_part17 {op : HloOp τ sig (Elt F)} (h : op ∈ (ops_part17 : List (HloOp τ sig (Elt F)))) : op ∈ (ops : List (HloOp τ sig (Elt F))) := by
  rw [ops_def]
  exact List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_left _ h)))))))))))))))))

/-- Window 18's list sits after 18 others in the concatenation. -/
theorem mem_ops_part18 {op : HloOp τ sig (Elt F)} (h : op ∈ (ops_part18 : List (HloOp τ sig (Elt F)))) : op ∈ (ops : List (HloOp τ sig (Elt F))) := by
  rw [ops_def]
  exact List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_left _ h))))))))))))))))))

/-- Window 19's list sits after 19 others in the concatenation. -/
theorem mem_ops_part19 {op : HloOp τ sig (Elt F)} (h : op ∈ (ops_part19 : List (HloOp τ sig (Elt F)))) : op ∈ (ops : List (HloOp τ sig (Elt F))) := by
  rw [ops_def]
  exact List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_left _ h)))))))))))))))))))

/-- Window 20's list sits after 20 others in the concatenation. -/
theorem mem_ops_part20 {op : HloOp τ sig (Elt F)} (h : op ∈ (ops_part20 : List (HloOp τ sig (Elt F)))) : op ∈ (ops : List (HloOp τ sig (Elt F))) := by
  rw [ops_def]
  exact List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_left _ h))))))))))))))))))))

/-- Window 21's list sits after 21 others in the concatenation. -/
theorem mem_ops_part21 {op : HloOp τ sig (Elt F)} (h : op ∈ (ops_part21 : List (HloOp τ sig (Elt F)))) : op ∈ (ops : List (HloOp τ sig (Elt F))) := by
  rw [ops_def]
  exact List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_left _ h)))))))))))))))))))))

/-- Window 22's list sits after 22 others in the concatenation. -/
theorem mem_ops_part22 {op : HloOp τ sig (Elt F)} (h : op ∈ (ops_part22 : List (HloOp τ sig (Elt F)))) : op ∈ (ops : List (HloOp τ sig (Elt F))) := by
  rw [ops_def]
  exact List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_left _ h))))))))))))))))))))))

/-- Window 23's list sits after 23 others in the concatenation. -/
theorem mem_ops_part23 {op : HloOp τ sig (Elt F)} (h : op ∈ (ops_part23 : List (HloOp τ sig (Elt F)))) : op ∈ (ops : List (HloOp τ sig (Elt F))) := by
  rw [ops_def]
  exact List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_left _ h)))))))))))))))))))))))

/-- Window 24's list sits after 24 others in the concatenation. -/
theorem mem_ops_part24 {op : HloOp τ sig (Elt F)} (h : op ∈ (ops_part24 : List (HloOp τ sig (Elt F)))) : op ∈ (ops : List (HloOp τ sig (Elt F))) := by
  rw [ops_def]
  exact List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_left _ h))))))))))))))))))))))))

/-- Window 25's list sits after 25 others in the concatenation. -/
theorem mem_ops_part25 {op : HloOp τ sig (Elt F)} (h : op ∈ (ops_part25 : List (HloOp τ sig (Elt F)))) : op ∈ (ops : List (HloOp τ sig (Elt F))) := by
  rw [ops_def]
  exact List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_left _ h)))))))))))))))))))))))))

/-- Window 26's list sits after 26 others in the concatenation. -/
theorem mem_ops_part26 {op : HloOp τ sig (Elt F)} (h : op ∈ (ops_part26 : List (HloOp τ sig (Elt F)))) : op ∈ (ops : List (HloOp τ sig (Elt F))) := by
  rw [ops_def]
  exact List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_left _ h))))))))))))))))))))))))))

/-- Window 27's list sits after 27 others in the concatenation. -/
theorem mem_ops_part27 {op : HloOp τ sig (Elt F)} (h : op ∈ (ops_part27 : List (HloOp τ sig (Elt F)))) : op ∈ (ops : List (HloOp τ sig (Elt F))) := by
  rw [ops_def]
  exact List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_left _ h)))))))))))))))))))))))))))

/-- Window 28's list sits after 28 others in the concatenation. -/
theorem mem_ops_part28 {op : HloOp τ sig (Elt F)} (h : op ∈ (ops_part28 : List (HloOp τ sig (Elt F)))) : op ∈ (ops : List (HloOp τ sig (Elt F))) := by
  rw [ops_def]
  exact List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_left _ h))))))))))))))))))))))))))))

/-- Window 29's list sits after 29 others in the concatenation. -/
theorem mem_ops_part29 {op : HloOp τ sig (Elt F)} (h : op ∈ (ops_part29 : List (HloOp τ sig (Elt F)))) : op ∈ (ops : List (HloOp τ sig (Elt F))) := by
  rw [ops_def]
  exact List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_left _ h)))))))))))))))))))))))))))))

/-- Window 30's list sits after 30 others in the concatenation. -/
theorem mem_ops_part30 {op : HloOp τ sig (Elt F)} (h : op ∈ (ops_part30 : List (HloOp τ sig (Elt F)))) : op ∈ (ops : List (HloOp τ sig (Elt F))) := by
  rw [ops_def]
  exact List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_left _ h))))))))))))))))))))))))))))))

/-- Window 31's list sits after 31 others in the concatenation. -/
theorem mem_ops_part31 {op : HloOp τ sig (Elt F)} (h : op ∈ (ops_part31 : List (HloOp τ sig (Elt F)))) : op ∈ (ops : List (HloOp τ sig (Elt F))) := by
  rw [ops_def]
  exact List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_left _ h)))))))))))))))))))))))))))))))

/-- Window 32's list sits after 32 others in the concatenation. -/
theorem mem_ops_part32 {op : HloOp τ sig (Elt F)} (h : op ∈ (ops_part32 : List (HloOp τ sig (Elt F)))) : op ∈ (ops : List (HloOp τ sig (Elt F))) := by
  rw [ops_def]
  exact List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_left _ h))))))))))))))))))))))))))))))))

/-- Window 33's list sits after 33 others in the concatenation. -/
theorem mem_ops_part33 {op : HloOp τ sig (Elt F)} (h : op ∈ (ops_part33 : List (HloOp τ sig (Elt F)))) : op ∈ (ops : List (HloOp τ sig (Elt F))) := by
  rw [ops_def]
  exact List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_left _ h)))))))))))))))))))))))))))))))))

/-- Window 34's list sits after 34 others in the concatenation. -/
theorem mem_ops_part34 {op : HloOp τ sig (Elt F)} (h : op ∈ (ops_part34 : List (HloOp τ sig (Elt F)))) : op ∈ (ops : List (HloOp τ sig (Elt F))) := by
  rw [ops_def]
  exact List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_left _ h))))))))))))))))))))))))))))))))))

/-- Window 35's list sits after 35 others in the concatenation. -/
theorem mem_ops_part35 {op : HloOp τ sig (Elt F)} (h : op ∈ (ops_part35 : List (HloOp τ sig (Elt F)))) : op ∈ (ops : List (HloOp τ sig (Elt F))) := by
  rw [ops_def]
  exact List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_left _ h)))))))))))))))))))))))))))))))))))

/-- Window 36's list sits after 36 others in the concatenation. -/
theorem mem_ops_part36 {op : HloOp τ sig (Elt F)} (h : op ∈ (ops_part36 : List (HloOp τ sig (Elt F)))) : op ∈ (ops : List (HloOp τ sig (Elt F))) := by
  rw [ops_def]
  exact List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_left _ h))))))))))))))))))))))))))))))))))))

/-- Window 37's list sits after 37 others in the concatenation. -/
theorem mem_ops_part37 {op : HloOp τ sig (Elt F)} (h : op ∈ (ops_part37 : List (HloOp τ sig (Elt F)))) : op ∈ (ops : List (HloOp τ sig (Elt F))) := by
  rw [ops_def]
  exact List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_left _ h)))))))))))))))))))))))))))))))))))))

/-- Window 38's list sits after 38 others in the concatenation. -/
theorem mem_ops_part38 {op : HloOp τ sig (Elt F)} (h : op ∈ (ops_part38 : List (HloOp τ sig (Elt F)))) : op ∈ (ops : List (HloOp τ sig (Elt F))) := by
  rw [ops_def]
  exact List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_left _ h))))))))))))))))))))))))))))))))))))))

/-- Window 39's list sits after 39 others in the concatenation. -/
theorem mem_ops_part39 {op : HloOp τ sig (Elt F)} (h : op ∈ (ops_part39 : List (HloOp τ sig (Elt F)))) : op ∈ (ops : List (HloOp τ sig (Elt F))) := by
  rw [ops_def]
  exact List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_left _ h)))))))))))))))))))))))))))))))))))))))

/-- Window 40's list sits after 40 others in the concatenation. -/
theorem mem_ops_part40 {op : HloOp τ sig (Elt F)} (h : op ∈ (ops_part40 : List (HloOp τ sig (Elt F)))) : op ∈ (ops : List (HloOp τ sig (Elt F))) := by
  rw [ops_def]
  exact List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_left _ h))))))))))))))))))))))))))))))))))))))))

/-- Window 41's list sits after 41 others in the concatenation. -/
theorem mem_ops_part41 {op : HloOp τ sig (Elt F)} (h : op ∈ (ops_part41 : List (HloOp τ sig (Elt F)))) : op ∈ (ops : List (HloOp τ sig (Elt F))) := by
  rw [ops_def]
  exact List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_left _ h)))))))))))))))))))))))))))))))))))))))))

/-- Window 42's list sits after 42 others in the concatenation. -/
theorem mem_ops_part42 {op : HloOp τ sig (Elt F)} (h : op ∈ (ops_part42 : List (HloOp τ sig (Elt F)))) : op ∈ (ops : List (HloOp τ sig (Elt F))) := by
  rw [ops_def]
  exact List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_left _ h))))))))))))))))))))))))))))))))))))))))))

/-- Window 43's list sits after 43 others in the concatenation. -/
theorem mem_ops_part43 {op : HloOp τ sig (Elt F)} (h : op ∈ (ops_part43 : List (HloOp τ sig (Elt F)))) : op ∈ (ops : List (HloOp τ sig (Elt F))) := by
  rw [ops_def]
  exact List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_left _ h)))))))))))))))))))))))))))))))))))))))))))

/-- Window 44's list sits after 44 others in the concatenation. -/
theorem mem_ops_part44 {op : HloOp τ sig (Elt F)} (h : op ∈ (ops_part44 : List (HloOp τ sig (Elt F)))) : op ∈ (ops : List (HloOp τ sig (Elt F))) := by
  rw [ops_def]
  exact List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_left _ h))))))))))))))))))))))))))))))))))))))))))))

/-- Window 45's list sits last in the concatenation. -/
theorem mem_ops_part45 {op : HloOp τ sig (Elt F)} (h : op ∈ (ops_part45 : List (HloOp τ sig (Elt F)))) : op ∈ (ops : List (HloOp τ sig (Elt F))) := by
  rw [ops_def]
  exact List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ h))))))))))))))))))))))))))))))))))))))))))))

end Cert.ReferenceIdeal.Hand

end
-- ==== Proof.Ref.Symm.lean ====
/-
  The reference's edge matrix of the last time step is symmetric, and so its transpose is itself.

  With X the last time step's features (2048 rows), the reference forms sq i = Σ_k X i k², the Gram matrix
  G = X·Xᵀ, the matrix dist i j = |sq i + sq j − 2·G i j|, one scalar threshold r from dist's mean, and
  edge i j = [dist i j < r] as a number. G is symmetric because the product of extended reals commutes, sq i + sq j
  because their sum does; every later step acts entry by entry, with scalars that do not depend on the entry. No
  finiteness is used.

  Each buffer is read at the END of the run through its own operation's equation, which holds there because the
  operations are in single-assignment order.
-/
import proofs.«146970_j35948876268088_1_alg».proof.Proof.Ref.Asc
import proofs.«146970_j35948876268088_1_alg».proof.Proof.Ref.Mem
import Idealize.ShloMosaic.PureOps.Ideal
import Idealize.ShloMosaic.PureOps.Ideal.Laws
import Idealize.ShloMosaic.Lib.ValueIdx
import Idealize.ShloMosaic.Lib.Pipeline.Value

noncomputable section

namespace Cert.ReferenceIdeal.Hand

open Cert.ReferenceIdeal Idealize.ShloMosaic Idealize.ShloMosaic.TcCoe Idealize.SL.Sem Idealize.ShloMosaic.StableHlo
open Idealize.ShloMosaic.ValueIdx

variable [Facts]
open Facts₀ Facts

/-! ## The layout operations of the reference's distance matrix, read at an index -/

section Pure

variable {α : Type}

/-- A scalar broadcast over the square reads the scalar at every index. -/
theorem bcast_scalar_apply (x : S_.Idx → α) (p : S2048x2048.Idx) :
    broadcastInDim S2048x2048 ![] bcast_S_S2048x2048 x p = x ix0 :=
  broadcastInDim_apply _ _ x p ix0 fun a => a.elim0

/-- A vector broadcast along the rows of the square (through a one-column matrix) reads the entry of the index's row. -/
theorem bcast_row_apply (x : S2048.Idx → α) (i j : Fin 2048) :
    broadcastInDim S2048x2048 ![0, 1] bcast_S2048x1_S2048x2048_0_1
      (broadcastInDim S2048x1 ![0] bcast_S2048_S2048x1_0 x) (ix2 i j) = x (ix1 i) := by
  rw [broadcastInDim_apply _ _ _ (ix2 i j) (ix2 i (0 : Fin 1)) (Fin.forall_fin_two.2 ⟨rfl, rfl⟩),
    broadcastInDim_apply _ _ _ (ix2 i (0 : Fin 1)) (ix1 i) (Fin.forall_fin_one.2 rfl)]

/-- and along its columns (through a one-row matrix) the entry of the index's column. -/
theorem bcast_col_apply (x : S2048.Idx → α) (i j : Fin 2048) :
    broadcastInDim S2048x2048 ![0, 1] bcast_S1x2048_S2048x2048_0_1
      (broadcastInDim S1x2048 ![1] bcast_S2048_S1x2048_1 x) (ix2 i j) = x (ix1 j) := by
  rw [broadcastInDim_apply _ _ _ (ix2 i j) (ix2 (0 : Fin 1) j) (Fin.forall_fin_two.2 ⟨rfl, rfl⟩),
    broadcastInDim_apply _ _ _ (ix2 (0 : Fin 1) j) (ix1 j) (Fin.forall_fin_one.2 rfl)]

/-- The transpose of a square matrix reads it at the swapped index. -/
theorem transpose_sq_apply (A : S2048x2048.Idx → α) (i j : Fin 2048) :
    transpose S2048x2048 [1, 0] A transposes_S2048x2048_S2048x2048_1_0 (ix2 i j) = A (ix2 j i) :=
  transpose_apply _ A _ (ix2 i j) (ix2 j i) (Fin.forall_fin_two.2 ⟨rfl, rfl⟩)

/-- The Gram matrix X·Xᵀ of the rows of X is symmetric: entry (i, j) sums X i k · X j k over k, and the product of
    extended reals commutes. -/
theorem gram_apply_symm (X : FVec Ideal S2048x256 .f32) (i j : Fin 2048) :
    Host.dotGeneral dot_S2048x256_S256x2048_S2048x2048_1_0_0_1_n_n none X
        (transpose S256x2048 [1, 0] X transposes_S2048x256_S256x2048_1_0) (ix2 i j)
      = Host.dotGeneral dot_S2048x256_S256x2048_S2048x2048_1_0_0_1_n_n none X
        (transpose S256x2048 [1, 0] X transposes_S2048x256_S256x2048_1_0) (ix2 j i) := by
  show FloatOps.dotGeneral _ _ _ _ _ _ = FloatOps.dotGeneral _ _ _ _ _ _
  rw [Ideal.dotGeneral_apply, Ideal.dotGeneral_apply]
  refine Finset.sum_congr rfl fun k _ => ?_
  rw [transpose_apply [1, 0] X _ (dot_S2048x256_S256x2048_S2048x2048_1_0_0_1_n_n.rhsIdx (ix2 i j) k)
        (dot_S2048x256_S256x2048_S2048x2048_1_0_0_1_n_n.lhsIdx (ix2 j i) k) (Fin.forall_fin_two.2 ⟨rfl, rfl⟩),
    transpose_apply [1, 0] X _ (dot_S2048x256_S256x2048_S2048x2048_1_0_0_1_n_n.rhsIdx (ix2 j i) k)
        (dot_S2048x256_S256x2048_S2048x2048_1_0_0_1_n_n.lhsIdx (ix2 i j) k) (Fin.forall_fin_two.2 ⟨rfl, rfl⟩),
    mul_comm]

end Pure

/-! ## The buffers' equations at the end of the reference's run

Each is the operation's own equation at the final contents (the operations are in single-assignment order): the
operation is the window's entry at the stated position, and its function is read off the entry. -/

section Equations

variable {F : FTy → Type} [FloatOps F] (m' : (ℓ : Loc nD τ sig) → Buf (Elt F) ℓ) (c : Dev nD)

/-- What the reference's buffers hold when its run ends. -/
local notation "RVF" => StableHlo.after (ops (F := F)) (StableHlo.launchContents m' c)

set_option maxRecDepth 16384 in
set_option maxHeartbeats 4000000 in
theorem eq_main_v101 : RVF (Proc.devRef .tc main_v101) = (broadcastInDim S2048x1 ![0] bcast_S2048_S2048x1_0 : (⟨S2048, .f32⟩ : BufTy).Contents (Elt F) → (⟨S2048x1, .f32⟩ : BufTy).Contents (Elt F)) (RVF (Proc.devRef .tc main_v100)) := by
  have h := StableHlo.Ascending.eq_unary (ops_asc (F := F)) (StableHlo.launchContents m' c)
    (mem_ops_part2 (List.getElem_mem (l := ops_part2 (F := F)) (n := 2) (Nat.le_of_ble_eq_true rfl))) rfl rfl (by decide) (hx := ⟨by decide, rfl⟩) (hy := ⟨by decide, rfl⟩)
  exact h

set_option maxRecDepth 16384 in
set_option maxHeartbeats 4000000 in
theorem eq_main_v102 : RVF (Proc.devRef .tc main_v102) = (broadcastInDim S1x2048 ![1] bcast_S2048_S1x2048_1 : (⟨S2048, .f32⟩ : BufTy).Contents (Elt F) → (⟨S1x2048, .f32⟩ : BufTy).Contents (Elt F)) (RVF (Proc.devRef .tc main_v100)) := by
  have h := StableHlo.Ascending.eq_unary (ops_asc (F := F)) (StableHlo.launchContents m' c)
    (mem_ops_part2 (List.getElem_mem (l := ops_part2 (F := F)) (n := 3) (Nat.le_of_ble_eq_true rfl))) rfl rfl (by decide) (hx := ⟨by decide, rfl⟩) (hy := ⟨by decide, rfl⟩)
  exact h

set_option maxRecDepth 16384 in
set_option maxHeartbeats 4000000 in
theorem eq_main_v103 : RVF (Proc.devRef .tc main_v103) = (broadcastInDim S2048x2048 ![0, 1] bcast_S2048x1_S2048x2048_0_1 : (⟨S2048x1, .f32⟩ : BufTy).Contents (Elt F) → (⟨S2048x2048, .f32⟩ : BufTy).Contents (Elt F)) (RVF (Proc.devRef .tc main_v101)) := by
  have h := StableHlo.Ascending.eq_unary (ops_asc (F := F)) (StableHlo.launchContents m' c)
    (mem_ops_part2 (List.getElem_mem (l := ops_part2 (F := F)) (n := 4) (Nat.le_of_ble_eq_true rfl))) rfl rfl (by decide) (hx := ⟨by decide, rfl⟩) (hy := ⟨by decide, rfl⟩)
  exact h

set_option maxRecDepth 16384 in
set_option maxHeartbeats 4000000 in
theorem eq_main_v104 : RVF (Proc.devRef .tc main_v104) = (broadcastInDim S2048x2048 ![0, 1] bcast_S1x2048_S2048x2048_0_1 : (⟨S1x2048, .f32⟩ : BufTy).Contents (Elt F) → (⟨S2048x2048, .f32⟩ : BufTy).Contents (Elt F)) (RVF (Proc.devRef .tc main_v102)) := by
  have h := StableHlo.Ascending.eq_unary (ops_asc (F := F)) (StableHlo.launchContents m' c)
    (mem_ops_part2 (List.getElem_mem (l := ops_part2 (F := F)) (n := 5) (Nat.le_of_ble_eq_true rfl))) rfl rfl (by decide) (hx := ⟨by decide, rfl⟩) (hy := ⟨by decide, rfl⟩)
  exact h

set_option maxRecDepth 16384 in
set_option maxHeartbeats 4000000 in
theorem eq_main_v105 : RVF (Proc.devRef .tc main_v105) = (addf : (⟨S2048x2048, .f32⟩ : BufTy).Contents (Elt F) → (⟨S2048x2048, .f32⟩ : BufTy).Contents (Elt F) → (⟨S2048x2048, .f32⟩ : BufTy).Contents (Elt F)) (RVF (Proc.devRef .tc main_v103)) (RVF (Proc.devRef .tc main_v104)) := by
  have h := StableHlo.Ascending.eq_binary (ops_asc (F := F)) (StableHlo.launchContents m' c)
    (mem_ops_part2 (List.getElem_mem (l := ops_part2 (F := F)) (n := 6) (Nat.le_of_ble_eq_true rfl))) rfl rfl rfl (by decide) (by decide) (ha := ⟨by decide, rfl⟩) (hb := ⟨by decide, rfl⟩) (hy := ⟨by decide, rfl⟩)
  exact h

set_option maxRecDepth 16384 in
set_option maxHeartbeats 4000000 in
theorem eq_main_v106 : RVF (Proc.devRef .tc main_v106) = ((transpose S256x2048 [1, 0] · transposes_S2048x256_S256x2048_1_0) : (⟨S2048x256, .f32⟩ : BufTy).Contents (Elt F) → (⟨S256x2048, .f32⟩ : BufTy).Contents (Elt F)) (RVF (Proc.devRef .tc main_v98)) := by
  have h := StableHlo.Ascending.eq_unary (ops_asc (F := F)) (StableHlo.launchContents m' c)
    (x := main_v98) (y := main_v106) (f := ((transpose S256x2048 [1, 0] · transposes_S2048x256_S256x2048_1_0) : (⟨S2048x256, .f32⟩ : BufTy).Contents (Elt F) → (⟨S256x2048, .f32⟩ : BufTy).Contents (Elt F)))
    (mem_ops_part2 (List.getElem_mem (l := ops_part2 (F := F)) (n := 7) (Nat.le_of_ble_eq_true rfl))) rfl rfl (by decide) (hx := ⟨by decide, rfl⟩) (hy := ⟨by decide, rfl⟩)
  exact h

set_option maxRecDepth 16384 in
set_option maxHeartbeats 4000000 in
theorem eq_main_v107 : RVF (Proc.devRef .tc main_v107) = ((fun l r => Host.dotGeneral dot_S2048x256_S256x2048_S2048x2048_1_0_0_1_n_n none l r) : (⟨S2048x256, .f32⟩ : BufTy).Contents (Elt F) → (⟨S256x2048, .f32⟩ : BufTy).Contents (Elt F) → (⟨S2048x2048, .f32⟩ : BufTy).Contents (Elt F)) (RVF (Proc.devRef .tc main_v98)) (RVF (Proc.devRef .tc main_v106)) := by
  have h := StableHlo.Ascending.eq_binary (ops_asc (F := F)) (StableHlo.launchContents m' c)
    (mem_ops_part2 (List.getElem_mem (l := ops_part2 (F := F)) (n := 8) (Nat.le_of_ble_eq_true rfl))) rfl rfl rfl (by decide) (by decide) (ha := ⟨by decide, rfl⟩) (hb := ⟨by decide, rfl⟩) (hy := ⟨by decide, rfl⟩)
  exact h

set_option maxRecDepth 16384 in
set_option maxHeartbeats 4000000 in
theorem eq_main_v108 : RVF (Proc.devRef .tc main_v108) = (broadcastInDim S2048x2048 ![] bcast_S_S2048x2048 : (⟨S_, .f32⟩ : BufTy).Contents (Elt F) → (⟨S2048x2048, .f32⟩ : BufTy).Contents (Elt F)) (RVF (Proc.devRef .tc main_cst_20)) := by
  have h := StableHlo.Ascending.eq_unary (ops_asc (F := F)) (StableHlo.launchContents m' c)
    (mem_ops_part2 (List.getElem_mem (l := ops_part2 (F := F)) (n := 10) (Nat.le_of_ble_eq_true rfl))) rfl rfl (by decide) (hx := ⟨by decide, rfl⟩) (hy := ⟨by decide, rfl⟩)
  exact h

set_option maxRecDepth 16384 in
set_option maxHeartbeats 4000000 in
theorem eq_main_v109 : RVF (Proc.devRef .tc main_v109) = (mulf : (⟨S2048x2048, .f32⟩ : BufTy).Contents (Elt F) → (⟨S2048x2048, .f32⟩ : BufTy).Contents (Elt F) → (⟨S2048x2048, .f32⟩ : BufTy).Contents (Elt F)) (RVF (Proc.devRef .tc main_v108)) (RVF (Proc.devRef .tc main_v107)) := by
  have h := StableHlo.Ascending.eq_binary (ops_asc (F := F)) (StableHlo.launchContents m' c)
    (mem_ops_part2 (List.getElem_mem (l := ops_part2 (F := F)) (n := 11) (Nat.le_of_ble_eq_true rfl))) rfl rfl rfl (by decide) (by decide) (ha := ⟨by decide, rfl⟩) (hb := ⟨by decide, rfl⟩) (hy := ⟨by decide, rfl⟩)
  exact h

set_option maxRecDepth 16384 in
set_option maxHeartbeats 4000000 in
theorem eq_main_v110 : RVF (Proc.devRef .tc main_v110) = (subf : (⟨S2048x2048, .f32⟩ : BufTy).Contents (Elt F) → (⟨S2048x2048, .f32⟩ : BufTy).Contents (Elt F) → (⟨S2048x2048, .f32⟩ : BufTy).Contents (Elt F)) (RVF (Proc.devRef .tc main_v105)) (RVF (Proc.devRef .tc main_v109)) := by
  have h := StableHlo.Ascending.eq_binary (ops_asc (F := F)) (StableHlo.launchContents m' c)
    (mem_ops_part2 (List.getElem_mem (l := ops_part2 (F := F)) (n := 12) (Nat.le_of_ble_eq_true rfl))) rfl rfl rfl (by decide) (by decide) (ha := ⟨by decide, rfl⟩) (hb := ⟨by decide, rfl⟩) (hy := ⟨by decide, rfl⟩)
  exact h

set_option maxRecDepth 16384 in
set_option maxHeartbeats 4000000 in
theorem eq_main_v111 : RVF (Proc.devRef .tc main_v111) = (Host.absf : (⟨S2048x2048, .f32⟩ : BufTy).Contents (Elt F) → (⟨S2048x2048, .f32⟩ : BufTy).Contents (Elt F)) (RVF (Proc.devRef .tc main_v110)) := by
  have h := StableHlo.Ascending.eq_unary (ops_asc (F := F)) (StableHlo.launchContents m' c)
    (mem_ops_part2 (List.getElem_mem (l := ops_part2 (F := F)) (n := 13) (Nat.le_of_ble_eq_true rfl))) rfl rfl (by decide) (hx := ⟨by decide, rfl⟩) (hy := ⟨by decide, rfl⟩)
  exact h

set_option maxRecDepth 16384 in
set_option maxHeartbeats 4000000 in
theorem eq_main_v115 : RVF (Proc.devRef .tc main_v115) = (broadcastInDim S2048x2048 ![] bcast_S_S2048x2048 : (⟨S_, .f32⟩ : BufTy).Contents (Elt F) → (⟨S2048x2048, .f32⟩ : BufTy).Contents (Elt F)) (RVF (Proc.devRef .tc main_v114)) := by
  have h := StableHlo.Ascending.eq_unary (ops_asc (F := F)) (StableHlo.launchContents m' c)
    (mem_ops_part2 (List.getElem_mem (l := ops_part2 (F := F)) (n := 20) (Nat.le_of_ble_eq_true rfl))) rfl rfl (by decide) (hx := ⟨by decide, rfl⟩) (hy := ⟨by decide, rfl⟩)
  exact h

set_option maxRecDepth 16384 in
set_option maxHeartbeats 4000000 in
theorem eq_main_v116 : RVF (Proc.devRef .tc main_v116) = (cmpf .olt : (⟨S2048x2048, .f32⟩ : BufTy).Contents (Elt F) → (⟨S2048x2048, .f32⟩ : BufTy).Contents (Elt F) → (⟨S2048x2048, .i1⟩ : BufTy).Contents (Elt F)) (RVF (Proc.devRef .tc main_v111)) (RVF (Proc.devRef .tc main_v115)) := by
  have h := StableHlo.Ascending.eq_binary (ops_asc (F := F)) (StableHlo.launchContents m' c)
    (mem_ops_part2 (List.getElem_mem (l := ops_part2 (F := F)) (n := 21) (Nat.le_of_ble_eq_true rfl))) rfl rfl rfl (by decide) (by decide) (ha := ⟨by decide, rfl⟩) (hb := ⟨by decide, rfl⟩) (hy := ⟨by decide, rfl⟩)
  exact h

set_option maxRecDepth 16384 in
set_option maxHeartbeats 4000000 in
theorem eq_main_v117 : RVF (Proc.devRef .tc main_v117) = (uitofp .f32 : (⟨S2048x2048, .i1⟩ : BufTy).Contents (Elt F) → (⟨S2048x2048, .f32⟩ : BufTy).Contents (Elt F)) (RVF (Proc.devRef .tc main_v116)) := by
  have h := StableHlo.Ascending.eq_unary (ops_asc (F := F)) (StableHlo.launchContents m' c)
    (mem_ops_part2 (List.getElem_mem (l := ops_part2 (F := F)) (n := 22) (Nat.le_of_ble_eq_true rfl))) rfl rfl (by decide) (hx := ⟨by decide, rfl⟩) (hy := ⟨by decide, rfl⟩)
  exact h

set_option maxRecDepth 16384 in
set_option maxHeartbeats 4000000 in
theorem eq_main_v118 : RVF (Proc.devRef .tc main_v118) = ((transpose S2048x2048 [1, 0] · transposes_S2048x2048_S2048x2048_1_0) : (⟨S2048x2048, .f32⟩ : BufTy).Contents (Elt F) → (⟨S2048x2048, .f32⟩ : BufTy).Contents (Elt F)) (RVF (Proc.devRef .tc main_v117)) := by
  have h := StableHlo.Ascending.eq_unary (ops_asc (F := F)) (StableHlo.launchContents m' c)
    (x := main_v117) (y := main_v118) (f := ((transpose S2048x2048 [1, 0] · transposes_S2048x2048_S2048x2048_1_0) : (⟨S2048x2048, .f32⟩ : BufTy).Contents (Elt F) → (⟨S2048x2048, .f32⟩ : BufTy).Contents (Elt F)))
    (mem_ops_part2 (List.getElem_mem (l := ops_part2 (F := F)) (n := 23) (Nat.le_of_ble_eq_true rfl))) rfl rfl (by decide) (hx := ⟨by decide, rfl⟩) (hy := ⟨by decide, rfl⟩)
  exact h

end Equations

/-! ## The squared-distance matrix and the edge matrix are symmetric -/

variable (m' : (ℓ : Loc nD τ sig) → Buf (Elt Ideal) ℓ) (c : Dev nD)

/-- What the reference's buffers hold when its run ends, at the ideal values. -/
local notation "RV" => StableHlo.after (ops (F := Ideal)) (StableHlo.launchContents m' c)

/-- sq i + sq j. -/
theorem symm_v105 (i j : Fin 2048) :
    RV (Proc.devRef .tc main_v105) (ix2 i j) = RV (Proc.devRef .tc main_v105) (ix2 j i) := by
  rw [eq_main_v105 m' c, eq_main_v103 m' c, eq_main_v104 m' c, eq_main_v101 m' c, eq_main_v102 m' c,
    addf_apply, addf_apply, bcast_row_apply, bcast_col_apply, bcast_row_apply, bcast_col_apply, add_comm]

/-- X·Xᵀ. -/
theorem symm_v107 (i j : Fin 2048) :
    RV (Proc.devRef .tc main_v107) (ix2 i j) = RV (Proc.devRef .tc main_v107) (ix2 j i) := by
  rw [eq_main_v107 m' c, eq_main_v106 m' c]
  exact gram_apply_symm _ i j

/-- 2·(X·Xᵀ). -/
theorem symm_v109 (i j : Fin 2048) :
    RV (Proc.devRef .tc main_v109) (ix2 i j) = RV (Proc.devRef .tc main_v109) (ix2 j i) := by
  rw [eq_main_v109 m' c, mulf_apply, mulf_apply, symm_v107 m' c i j, eq_main_v108 m' c, bcast_scalar_apply, bcast_scalar_apply]

/-- |sq i + sq j − 2·(X·Xᵀ) i j|. -/
theorem symm_v111 (i j : Fin 2048) :
    RV (Proc.devRef .tc main_v111) (ix2 i j) = RV (Proc.devRef .tc main_v111) (ix2 j i) := by
  rw [eq_main_v111 m' c, eq_main_v110 m' c]
  show FloatOps.hostAbsf (subf _ _ _) = FloatOps.hostAbsf (subf _ _ _)
  rw [subf_apply, subf_apply, symm_v105 m' c i j, symm_v109 m' c i j]

/-- The edge matrix [dist < r]: the threshold r is one scalar. -/
theorem symm_edge (i j : Fin 2048) :
    RV (Proc.devRef .tc main_v117) (ix2 i j) = RV (Proc.devRef .tc main_v117) (ix2 j i) := by
  rw [eq_main_v117 m' c, eq_main_v116 m' c]
  show FloatOps.uitofp _ (cmpf _ _ _ _) = FloatOps.uitofp _ (cmpf _ _ _ _)
  rw [cmpf_apply, cmpf_apply, symm_v111 m' c i j, eq_main_v115 m' c, bcast_scalar_apply, bcast_scalar_apply]

/-- The transpose of the symmetric edge matrix is itself. -/
theorem el_main_v118 : RV (Proc.devRef .tc main_v118) = RV (Proc.devRef .tc main_v117) := by
  rw [eq_main_v118 m' c]
  funext p
  rw [eq_ix2 p]
  exact (transpose_sq_apply _ _ _).trans (symm_edge m' c _ _)

end Cert.ReferenceIdeal.Hand

end
-- ==== Proof.Ref.SymmH.lean ====
/-
  The reference's matrix H = [edgeᵀ·edge > 0] of the last time step is symmetric, so each of its eleven transposes
  is H itself. For EVERY square matrix A the product Aᵀ·A is symmetric — entry (i, j) sums A k i · A k j over k, and
  the product of extended reals commutes — and the comparison with the scalar zero and the conversion act entry by
  entry.
-/
import proofs.«146970_j35948876268088_1_alg».proof.Proof.Ref.Symm

noncomputable section

namespace Cert.ReferenceIdeal.Hand

open Cert.ReferenceIdeal Idealize.ShloMosaic Idealize.ShloMosaic.TcCoe Idealize.SL.Sem Idealize.ShloMosaic.StableHlo
open Idealize.ShloMosaic.ValueIdx

variable [Facts]
open Facts₀ Facts

section Pure

/-- Aᵀ·A is symmetric for every square A: entry (i, j) sums A k i · A k j over k. -/
theorem trdot_apply_symm (A : FVec Ideal S2048x2048 .f32) (i j : Fin 2048) :
    Host.dotGeneral dot_S2048x2048_S2048x2048_S2048x2048_1_0_0_1_n_n none
        (transpose S2048x2048 [1, 0] A transposes_S2048x2048_S2048x2048_1_0) A (ix2 i j)
      = Host.dotGeneral dot_S2048x2048_S2048x2048_S2048x2048_1_0_0_1_n_n none
        (transpose S2048x2048 [1, 0] A transposes_S2048x2048_S2048x2048_1_0) A (ix2 j i) := by
  show FloatOps.dotGeneral _ _ _ _ _ _ = FloatOps.dotGeneral _ _ _ _ _ _
  rw [Ideal.dotGeneral_apply, Ideal.dotGeneral_apply]
  refine Finset.sum_congr rfl fun k _ => ?_
  rw [transpose_apply [1, 0] A _ (dot_S2048x2048_S2048x2048_S2048x2048_1_0_0_1_n_n.lhsIdx (ix2 i j) k)
        (dot_S2048x2048_S2048x2048_S2048x2048_1_0_0_1_n_n.rhsIdx (ix2 j i) k) (Fin.forall_fin_two.2 ⟨rfl, rfl⟩),
    transpose_apply [1, 0] A _ (dot_S2048x2048_S2048x2048_S2048x2048_1_0_0_1_n_n.lhsIdx (ix2 j i) k)
        (dot_S2048x2048_S2048x2048_S2048x2048_1_0_0_1_n_n.rhsIdx (ix2 i j) k) (Fin.forall_fin_two.2 ⟨rfl, rfl⟩),
    mul_comm]

end Pure

/-! ## The buffers' equations at the end of the reference's run

Each is the operation's own equation at the final contents (the operations are in single-assignment order): the
operation is the window's entry at the stated position, and its function is read off the entry. -/

section Equations

variable {F : FTy → Type} [FloatOps F] (m' : (ℓ : Loc nD τ sig) → Buf (Elt F) ℓ) (c : Dev nD)

/-- What the reference's buffers hold when its run ends. -/
local notation "RVF" => StableHlo.after (ops (F := F)) (StableHlo.launchContents m' c)

set_option maxRecDepth 16384 in
set_option maxHeartbeats 4000000 in
theorem eq_main_v119 : RVF (Proc.devRef .tc main_v119) = ((fun l r => Host.dotGeneral dot_S2048x2048_S2048x2048_S2048x2048_1_0_0_1_n_n none l r) : (⟨S2048x2048, .f32⟩ : BufTy).Contents (Elt F) → (⟨S2048x2048, .f32⟩ : BufTy).Contents (Elt F) → (⟨S2048x2048, .f32⟩ : BufTy).Contents (Elt F)) (RVF (Proc.devRef .tc main_v118)) (RVF (Proc.devRef .tc main_v117)) := by
  have h := StableHlo.Ascending.eq_binary (ops_asc (F := F)) (StableHlo.launchContents m' c)
    (mem_ops_part2 (List.getElem_mem (l := ops_part2 (F := F)) (n := 24) (Nat.le_of_ble_eq_true rfl))) rfl rfl rfl (by decide) (by decide) (ha := ⟨by decide, rfl⟩) (hb := ⟨by decide, rfl⟩) (hy := ⟨by decide, rfl⟩)
  exact h

set_option maxRecDepth 16384 in
set_option maxHeartbeats 4000000 in
theorem eq_main_v120 : RVF (Proc.devRef .tc main_v120) = (broadcastInDim S2048x2048 ![] bcast_S_S2048x2048 : (⟨S_, .f32⟩ : BufTy).Contents (Elt F) → (⟨S2048x2048, .f32⟩ : BufTy).Contents (Elt F)) (RVF (Proc.devRef .tc main_cst_24)) := by
  have h := StableHlo.Ascending.eq_unary (ops_asc (F := F)) (StableHlo.launchContents m' c)
    (mem_ops_part2 (List.getElem_mem (l := ops_part2 (F := F)) (n := 26) (Nat.le_of_ble_eq_true rfl))) rfl rfl (by decide) (hx := ⟨by decide, rfl⟩) (hy := ⟨by decide, rfl⟩)
  exact h

set_option maxRecDepth 16384 in
set_option maxHeartbeats 4000000 in
theorem eq_main_v121 : RVF (Proc.devRef .tc main_v121) = (cmpf .ogt : (⟨S2048x2048, .f32⟩ : BufTy).Contents (Elt F) → (⟨S2048x2048, .f32⟩ : BufTy).Contents (Elt F) → (⟨S2048x2048, .i1⟩ : BufTy).Contents (Elt F)) (RVF (Proc.devRef .tc main_v119)) (RVF (Proc.devRef .tc main_v120)) := by
  have h := StableHlo.Ascending.eq_binary (ops_asc (F := F)) (StableHlo.launchContents m' c)
    (mem_ops_part2 (List.getElem_mem (l := ops_part2 (F := F)) (n := 27) (Nat.le_of_ble_eq_true rfl))) rfl rfl rfl (by decide) (by decide) (ha := ⟨by decide, rfl⟩) (hb := ⟨by decide, rfl⟩) (hy := ⟨by decide, rfl⟩)
  exact h

set_option maxRecDepth 16384 in
set_option maxHeartbeats 4000000 in
theorem eq_main_v122 : RVF (Proc.devRef .tc main_v122) = (uitofp .f32 : (⟨S2048x2048, .i1⟩ : BufTy).Contents (Elt F) → (⟨S2048x2048, .f32⟩ : BufTy).Contents (Elt F)) (RVF (Proc.devRef .tc main_v121)) := by
  have h := StableHlo.Ascending.eq_unary (ops_asc (F := F)) (StableHlo.launchContents m' c)
    (mem_ops_part2 (List.getElem_mem (l := ops_part2 (F := F)) (n := 28) (Nat.le_of_ble_eq_true rfl))) rfl rfl (by decide) (hx := ⟨by decide, rfl⟩) (hy := ⟨by decide, rfl⟩)
  exact h

set_option maxRecDepth 16384 in
set_option maxHeartbeats 4000000 in
theorem eq_main_v130 : RVF (Proc.devRef .tc main_v130) = ((transpose S2048x2048 [1, 0] · transposes_S2048x2048_S2048x2048_1_0) : (⟨S2048x2048, .f32⟩ : BufTy).Contents (Elt F) → (⟨S2048x2048, .f32⟩ : BufTy).Contents (Elt F)) (RVF (Proc.devRef .tc main_v122)) := by
  have h := StableHlo.Ascending.eq_unary (ops_asc (F := F)) (StableHlo.launchContents m' c)
    (x := main_v122) (y := main_v130) (f := ((transpose S2048x2048 [1, 0] · transposes_S2048x2048_S2048x2048_1_0) : (⟨S2048x2048, .f32⟩ : BufTy).Contents (Elt F) → (⟨S2048x2048, .f32⟩ : BufTy).Contents (Elt F)))
    (mem_ops_part2 (List.getElem_mem (l := ops_part2 (F := F)) (n := 40) (Nat.le_of_ble_eq_true rfl))) rfl rfl (by decide) (hx := ⟨by decide, rfl⟩) (hy := ⟨by decide, rfl⟩)
  exact h

set_option maxRecDepth 16384 in
set_option maxHeartbeats 4000000 in
theorem eq_main_v1286 : RVF (Proc.devRef .tc main_v1286) = ((transpose S2048x2048 [1, 0] · transposes_S2048x2048_S2048x2048_1_0) : (⟨S2048x2048, .f32⟩ : BufTy).Contents (Elt F) → (⟨S2048x2048, .f32⟩ : BufTy).Contents (Elt F)) (RVF (Proc.devRef .tc main_v122)) := by
  have h := StableHlo.Ascending.eq_unary (ops_asc (F := F)) (StableHlo.launchContents m' c)
    (x := main_v122) (y := main_v1286) (f := ((transpose S2048x2048 [1, 0] · transposes_S2048x2048_S2048x2048_1_0) : (⟨S2048x2048, .f32⟩ : BufTy).Contents (Elt F) → (⟨S2048x2048, .f32⟩ : BufTy).Contents (Elt F)))
    (mem_ops_part26 (List.getElem_mem (l := ops_part26 (F := F)) (n := 0) (Nat.le_of_ble_eq_true rfl))) rfl rfl (by decide) (hx := ⟨by decide, rfl⟩) (hy := ⟨by decide, rfl⟩)
  exact h

set_option maxRecDepth 16384 in
set_option maxHeartbeats 4000000 in
theorem eq_main_v1341 : RVF (Proc.devRef .tc main_v1341) = ((transpose S2048x2048 [1, 0] · transposes_S2048x2048_S2048x2048_1_0) : (⟨S2048x2048, .f32⟩ : BufTy).Contents (Elt F) → (⟨S2048x2048, .f32⟩ : BufTy).Contents (Elt F)) (RVF (Proc.devRef .tc main_v122)) := by
  have h := StableHlo.Ascending.eq_unary (ops_asc (F := F)) (StableHlo.launchContents m' c)
    (x := main_v122) (y := main_v1341) (f := ((transpose S2048x2048 [1, 0] · transposes_S2048x2048_S2048x2048_1_0) : (⟨S2048x2048, .f32⟩ : BufTy).Contents (Elt F) → (⟨S2048x2048, .f32⟩ : BufTy).Contents (Elt F)))
    (mem_ops_part27 (List.getElem_mem (l := ops_part27 (F := F)) (n := 22) (Nat.le_of_ble_eq_true rfl))) rfl rfl (by decide) (hx := ⟨by decide, rfl⟩) (hy := ⟨by decide, rfl⟩)
  exact h

set_option maxRecDepth 16384 in
set_option maxHeartbeats 4000000 in
theorem eq_main_v1410 : RVF (Proc.devRef .tc main_v1410) = ((transpose S2048x2048 [1, 0] · transposes_S2048x2048_S2048x2048_1_0) : (⟨S2048x2048, .f32⟩ : BufTy).Contents (Elt F) → (⟨S2048x2048, .f32⟩ : BufTy).Contents (Elt F)) (RVF (Proc.devRef .tc main_v122)) := by
  have h := StableHlo.Ascending.eq_unary (ops_asc (F := F)) (StableHlo.launchContents m' c)
    (x := main_v122) (y := main_v1410) (f := ((transpose S2048x2048 [1, 0] · transposes_S2048x2048_S2048x2048_1_0) : (⟨S2048x2048, .f32⟩ : BufTy).Contents (Elt F) → (⟨S2048x2048, .f32⟩ : BufTy).Contents (Elt F)))
    (mem_ops_part28 (List.getElem_mem (l := ops_part28 (F := F)) (n := 34) (Nat.le_of_ble_eq_true rfl))) rfl rfl (by decide) (hx := ⟨by decide, rfl⟩) (hy := ⟨by decide, rfl⟩)
  exact h

set_option maxRecDepth 16384 in
set_option maxHeartbeats 4000000 in
theorem eq_main_v1465 : RVF (Proc.devRef .tc main_v1465) = ((transpose S2048x2048 [1, 0] · transposes_S2048x2048_S2048x2048_1_0) : (⟨S2048x2048, .f32⟩ : BufTy).Contents (Elt F) → (⟨S2048x2048, .f32⟩ : BufTy).Contents (Elt F)) (RVF (Proc.devRef .tc main_v122)) := by
  have h := StableHlo.Ascending.eq_unary (ops_asc (F := F)) (StableHlo.launchContents m' c)
    (x := main_v122) (y := main_v1465) (f := ((transpose S2048x2048 [1, 0] · transposes_S2048x2048_S2048x2048_1_0) : (⟨S2048x2048, .f32⟩ : BufTy).Contents (Elt F) → (⟨S2048x2048, .f32⟩ : BufTy).Contents (Elt F)))
    (mem_ops_part29 (List.getElem_mem (l := ops_part29 (F := F)) (n := 62) (Nat.le_of_ble_eq_true rfl))) rfl rfl (by decide) (hx := ⟨by decide, rfl⟩) (hy := ⟨by decide, rfl⟩)
  exact h

set_option maxRecDepth 16384 in
set_option maxHeartbeats 4000000 in
theorem eq_main_v1534 : RVF (Proc.devRef .tc main_v1534) = ((transpose S2048x2048 [1, 0] · transposes_S2048x2048_S2048x2048_1_0) : (⟨S2048x2048, .f32⟩ : BufTy).Contents (Elt F) → (⟨S2048x2048, .f32⟩ : BufTy).Contents (Elt F)) (RVF (Proc.devRef .tc main_v122)) := by
  have h := StableHlo.Ascending.eq_unary (ops_asc (F := F)) (StableHlo.launchContents m' c)
    (x := main_v122) (y := main_v1534) (f := ((transpose S2048x2048 [1, 0] · transposes_S2048x2048_S2048x2048_1_0) : (⟨S2048x2048, .f32⟩ : BufTy).Contents (Elt F) → (⟨S2048x2048, .f32⟩ : BufTy).Contents (Elt F)))
    (mem_ops_part31 (List.getElem_mem (l := ops_part31 (F := F)) (n := 6) (Nat.le_of_ble_eq_true rfl))) rfl rfl (by decide) (hx := ⟨by decide, rfl⟩) (hy := ⟨by decide, rfl⟩)
  exact h

set_option maxRecDepth 16384 in
set_option maxHeartbeats 4000000 in
theorem eq_main_v1589 : RVF (Proc.devRef .tc main_v1589) = ((transpose S2048x2048 [1, 0] · transposes_S2048x2048_S2048x2048_1_0) : (⟨S2048x2048, .f32⟩ : BufTy).Contents (Elt F) → (⟨S2048x2048, .f32⟩ : BufTy).Contents (Elt F)) (RVF (Proc.devRef .tc main_v122)) := by
  have h := StableHlo.Ascending.eq_unary (ops_asc (F := F)) (StableHlo.launchContents m' c)
    (x := main_v122) (y := main_v1589) (f := ((transpose S2048x2048 [1, 0] · transposes_S2048x2048_S2048x2048_1_0) : (⟨S2048x2048, .f32⟩ : BufTy).Contents (Elt F) → (⟨S2048x2048, .f32⟩ : BufTy).Contents (Elt F)))
    (mem_ops_part32 (List.getElem_mem (l := ops_part32 (F := F)) (n := 26) (Nat.le_of_ble_eq_true rfl))) rfl rfl (by decide) (hx := ⟨by decide, rfl⟩) (hy := ⟨by decide, rfl⟩)
  exact h

set_option maxRecDepth 16384 in
set_option maxHeartbeats 4000000 in
theorem eq_main_v1658 : RVF (Proc.devRef .tc main_v1658) = ((transpose S2048x2048 [1, 0] · transposes_S2048x2048_S2048x2048_1_0) : (⟨S2048x2048, .f32⟩ : BufTy).Contents (Elt F) → (⟨S2048x2048, .f32⟩ : BufTy).Contents (Elt F)) (RVF (Proc.devRef .tc main_v122)) := by
  have h := StableHlo.Ascending.eq_unary (ops_asc (F := F)) (StableHlo.launchContents m' c)
    (x := main_v122) (y := main_v1658) (f := ((transpose S2048x2048 [1, 0] · transposes_S2048x2048_S2048x2048_1_0) : (⟨S2048x2048, .f32⟩ : BufTy).Contents (Elt F) → (⟨S2048x2048, .f32⟩ : BufTy).Contents (Elt F)))
    (mem_ops_part33 (List.getElem_mem (l := ops_part33 (F := F)) (n := 52) (Nat.le_of_ble_eq_true rfl))) rfl rfl (by decide) (hx := ⟨by decide, rfl⟩) (hy := ⟨by decide, rfl⟩)
  exact h

set_option maxRecDepth 16384 in
set_option maxHeartbeats 4000000 in
theorem eq_main_v1713 : RVF (Proc.devRef .tc main_v1713) = ((transpose S2048x2048 [1, 0] · transposes_S2048x2048_S2048x2048_1_0) : (⟨S2048x2048, .f32⟩ : BufTy).Contents (Elt F) → (⟨S2048x2048, .f32⟩ : BufTy).Contents (Elt F)) (RVF (Proc.devRef .tc main_v122)) := by
  have h := StableHlo.Ascending.eq_unary (ops_asc (F := F)) (StableHlo.launchContents m' c)
    (x := main_v122) (y := main_v1713) (f := ((transpose S2048x2048 [1, 0] · transposes_S2048x2048_S2048x2048_1_0) : (⟨S2048x2048, .f32⟩ : BufTy).Contents (Elt F) → (⟨S2048x2048, .f32⟩ : BufTy).Contents (Elt F)))
    (mem_ops_part34 (List.getElem_mem (l := ops_part34 (F := F)) (n := 66) (Nat.le_of_ble_eq_true rfl))) rfl rfl (by decide) (hx := ⟨by decide, rfl⟩) (hy := ⟨by decide, rfl⟩)
  exact h

set_option maxRecDepth 16384 in
set_option maxHeartbeats 4000000 in
theorem eq_main_v2166 : RVF (Proc.devRef .tc main_v2166) = ((transpose S2048x2048 [1, 0] · transposes_S2048x2048_S2048x2048_1_0) : (⟨S2048x2048, .f32⟩ : BufTy).Contents (Elt F) → (⟨S2048x2048, .f32⟩ : BufTy).Contents (Elt F)) (RVF (Proc.devRef .tc main_v122)) := by
  have h := StableHlo.Ascending.eq_unary (ops_asc (F := F)) (StableHlo.launchContents m' c)
    (x := main_v122) (y := main_v2166) (f := ((transpose S2048x2048 [1, 0] · transposes_S2048x2048_S2048x2048_1_0) : (⟨S2048x2048, .f32⟩ : BufTy).Contents (Elt F) → (⟨S2048x2048, .f32⟩ : BufTy).Contents (Elt F)))
    (mem_ops_part43 (List.getElem_mem (l := ops_part43 (F := F)) (n := 45) (Nat.le_of_ble_eq_true rfl))) rfl rfl (by decide) (hx := ⟨by decide, rfl⟩) (hy := ⟨by decide, rfl⟩)
  exact h

set_option maxRecDepth 16384 in
set_option maxHeartbeats 4000000 in
theorem eq_main_v2221 : RVF (Proc.devRef .tc main_v2221) = ((transpose S2048x2048 [1, 0] · transposes_S2048x2048_S2048x2048_1_0) : (⟨S2048x2048, .f32⟩ : BufTy).Contents (Elt F) → (⟨S2048x2048, .f32⟩ : BufTy).Contents (Elt F)) (RVF (Proc.devRef .tc main_v122)) := by
  have h := StableHlo.Ascending.eq_unary (ops_asc (F := F)) (StableHlo.launchContents m' c)
    (x := main_v122) (y := main_v2221) (f := ((transpose S2048x2048 [1, 0] · transposes_S2048x2048_S2048x2048_1_0) : (⟨S2048x2048, .f32⟩ : BufTy).Contents (Elt F) → (⟨S2048x2048, .f32⟩ : BufTy).Contents (Elt F)))
    (mem_ops_part44 (List.getElem_mem (l := ops_part44 (F := F)) (n := 73) (Nat.le_of_ble_eq_true rfl))) rfl rfl (by decide) (hx := ⟨by decide, rfl⟩) (hy := ⟨by decide, rfl⟩)
  exact h

end Equations

/-! ## H is symmetric -/

variable (m' : (ℓ : Loc nD τ sig) → Buf (Elt Ideal) ℓ) (c : Dev nD)

/-- What the reference's buffers hold when its run ends, at the ideal values. -/
local notation "RV" => StableHlo.after (ops (F := Ideal)) (StableHlo.launchContents m' c)

/-- edgeᵀ·edge. -/
theorem symm_v119 (i j : Fin 2048) :
    RV (Proc.devRef .tc main_v119) (ix2 i j) = RV (Proc.devRef .tc main_v119) (ix2 j i) := by
  rw [eq_main_v119 m' c, eq_main_v118 m' c]
  exact trdot_apply_symm _ i j

/-- H = [edgeᵀ·edge > 0]. -/
theorem symm_H (i j : Fin 2048) :
    RV (Proc.devRef .tc main_v122) (ix2 i j) = RV (Proc.devRef .tc main_v122) (ix2 j i) := by
  rw [eq_main_v122 m' c, eq_main_v121 m' c]
  show FloatOps.uitofp _ (cmpf _ _ _ _) = FloatOps.uitofp _ (cmpf _ _ _ _)
  rw [cmpf_apply, cmpf_apply, symm_v119 m' c i j, eq_main_v120 m' c, bcast_scalar_apply, bcast_scalar_apply]

/-- The transpose of H is H. -/
theorem transpose_H : transpose S2048x2048 [1, 0] (RV (Proc.devRef .tc main_v122)) transposes_S2048x2048_S2048x2048_1_0
    = RV (Proc.devRef .tc main_v122) := by
  funext p
  rw [eq_ix2 p]
  exact (transpose_sq_apply _ _ _).trans (symm_H m' c _ _)

theorem el_main_v130 : RV (Proc.devRef .tc main_v130) = RV (Proc.devRef .tc main_v122) :=
  (eq_main_v130 m' c).trans (transpose_H m' c)

theorem el_main_v1286 : RV (Proc.devRef .tc main_v1286) = RV (Proc.devRef .tc main_v122) :=
  (eq_main_v1286 m' c).trans (transpose_H m' c)

theorem el_main_v1341 : RV (Proc.devRef .tc main_v1341) = RV (Proc.devRef .tc main_v122) :=
  (eq_main_v1341 m' c).trans (transpose_H m' c)

theorem el_main_v1410 : RV (Proc.devRef .tc main_v1410) = RV (Proc.devRef .tc main_v122) :=
  (eq_main_v1410 m' c).trans (transpose_H m' c)

theorem el_main_v1465 : RV (Proc.devRef .tc main_v1465) = RV (Proc.devRef .tc main_v122) :=
  (eq_main_v1465 m' c).trans (transpose_H m' c)

theorem el_main_v1534 : RV (Proc.devRef .tc main_v1534) = RV (Proc.devRef .tc main_v122) :=
  (eq_main_v1534 m' c).trans (transpose_H m' c)

theorem el_main_v1589 : RV (Proc.devRef .tc main_v1589) = RV (Proc.devRef .tc main_v122) :=
  (eq_main_v1589 m' c).trans (transpose_H m' c)

theorem el_main_v1658 : RV (Proc.devRef .tc main_v1658) = RV (Proc.devRef .tc main_v122) :=
  (eq_main_v1658 m' c).trans (transpose_H m' c)

theorem el_main_v1713 : RV (Proc.devRef .tc main_v1713) = RV (Proc.devRef .tc main_v122) :=
  (eq_main_v1713 m' c).trans (transpose_H m' c)

theorem el_main_v2166 : RV (Proc.devRef .tc main_v2166) = RV (Proc.devRef .tc main_v122) :=
  (eq_main_v2166 m' c).trans (transpose_H m' c)

theorem el_main_v2221 : RV (Proc.devRef .tc main_v2221) = RV (Proc.devRef .tc main_v122) :=
  (eq_main_v2221 m' c).trans (transpose_H m' c)

end Cert.ReferenceIdeal.Hand

end
-- ==== Proof.KI.Mem.lean ====
/-
  Membership in the one list. An operation of a printed stretch is an operation of the list of stretches the stretch
  lies in, an operation of a list of stretches is an operation of the one list, and each region's pseudo-operation is
  an operation of the one list. Each is read off the shape of the list: a concatenation is entered on its left or on
  its right, a cons at its head or in its tail.
-/
import proofs.«146970_j35948876268088_1_alg».proof.Proof.KI.OneList

set_option maxRecDepth 16384

noncomputable section

namespace Cert.KernelIdeal.Hand

open Idealize.ShloMosaic Idealize.ShloMosaic.TcCoe Idealize.SL.Sem
open Cert.KernelIdeal Cert.KernelIdeal.Gen Cert.KernelIdeal.GenP

/-! ## A list of stretches, and a region, within the one list -/

theorem mem_KOps_st0 {op : HloOp τ sig (Elt Ideal)} (h : op ∈ (st0 : List (HS Ideal)).flatMap (·.ops)) : op ∈ KOps := by
  unfold KOps
  exact (List.mem_append_left _ h)

theorem mem_KOps_st1 {op : HloOp τ sig (Elt Ideal)} (h : op ∈ (st1 : List (HS Ideal)).flatMap (·.ops)) : op ∈ KOps := by
  unfold KOps
  exact (List.mem_append_right _ (List.mem_cons_of_mem _ (List.mem_append_left _ h)))

theorem mem_KOps_st2 {op : HloOp τ sig (Elt Ideal)} (h : op ∈ (st2 : List (HS Ideal)).flatMap (·.ops)) : op ∈ KOps := by
  unfold KOps
  exact (List.mem_append_right _ (List.mem_cons_of_mem _ (List.mem_append_right _ (List.mem_cons_of_mem _ (List.mem_append_left _ h)))))

theorem mem_KOps_st3 {op : HloOp τ sig (Elt Ideal)} (h : op ∈ (st3 : List (HS Ideal)).flatMap (·.ops)) : op ∈ KOps := by
  unfold KOps
  exact (List.mem_append_right _ (List.mem_cons_of_mem _ (List.mem_append_right _ (List.mem_cons_of_mem _ (List.mem_append_right _ (List.mem_cons_of_mem _ (List.mem_append_left _ h)))))))

theorem mem_KOps_st4 {op : HloOp τ sig (Elt Ideal)} (h : op ∈ (st4 : List (HS Ideal)).flatMap (·.ops)) : op ∈ KOps := by
  unfold KOps
  exact (List.mem_append_right _ (List.mem_cons_of_mem _ (List.mem_append_right _ (List.mem_cons_of_mem _ (List.mem_append_right _ (List.mem_cons_of_mem _ (List.mem_append_right _ (List.mem_cons_of_mem _ (List.mem_append_left _ h)))))))))

theorem mem_KOps_st5 {op : HloOp τ sig (Elt Ideal)} (h : op ∈ (st5 : List (HS Ideal)).flatMap (·.ops)) : op ∈ KOps := by
  unfold KOps
  exact (List.mem_append_right _ (List.mem_cons_of_mem _ (List.mem_append_right _ (List.mem_cons_of_mem _ (List.mem_append_right _ (List.mem_cons_of_mem _ (List.mem_append_right _ (List.mem_cons_of_mem _ (List.mem_append_right _ (List.mem_cons_of_mem _ (List.mem_append_left _ h)))))))))))

theorem mem_KOps_st6 {op : HloOp τ sig (Elt Ideal)} (h : op ∈ (st6 : List (HS Ideal)).flatMap (·.ops)) : op ∈ KOps := by
  unfold KOps
  exact (List.mem_append_right _ (List.mem_cons_of_mem _ (List.mem_append_right _ (List.mem_cons_of_mem _ (List.mem_append_right _ (List.mem_cons_of_mem _ (List.mem_append_right _ (List.mem_cons_of_mem _ (List.mem_append_right _ (List.mem_cons_of_mem _ (List.mem_append_right _ (List.mem_cons_of_mem _ (List.mem_append_left _ h)))))))))))))

theorem mem_KOps_st7 {op : HloOp τ sig (Elt Ideal)} (h : op ∈ (st7 : List (HS Ideal)).flatMap (·.ops)) : op ∈ KOps := by
  unfold KOps
  exact (List.mem_append_right _ (List.mem_cons_of_mem _ (List.mem_append_right _ (List.mem_cons_of_mem _ (List.mem_append_right _ (List.mem_cons_of_mem _ (List.mem_append_right _ (List.mem_cons_of_mem _ (List.mem_append_right _ (List.mem_cons_of_mem _ (List.mem_append_right _ (List.mem_cons_of_mem _ (List.mem_append_right _ (List.mem_cons_of_mem _ (List.mem_append_left _ h)))))))))))))))

theorem mem_KOps_st8 {op : HloOp τ sig (Elt Ideal)} (h : op ∈ (st8 : List (HS Ideal)).flatMap (·.ops)) : op ∈ KOps := by
  unfold KOps
  exact (List.mem_append_right _ (List.mem_cons_of_mem _ (List.mem_append_right _ (List.mem_cons_of_mem _ (List.mem_append_right _ (List.mem_cons_of_mem _ (List.mem_append_right _ (List.mem_cons_of_mem _ (List.mem_append_right _ (List.mem_cons_of_mem _ (List.mem_append_right _ (List.mem_cons_of_mem _ (List.mem_append_right _ (List.mem_cons_of_mem _ (List.mem_append_right _ (List.mem_cons_of_mem _ (List.mem_append_left _ h)))))))))))))))))

theorem mem_KOps_st9 {op : HloOp τ sig (Elt Ideal)} (h : op ∈ (st9 : List (HS Ideal)).flatMap (·.ops)) : op ∈ KOps := by
  unfold KOps
  exact (List.mem_append_right _ (List.mem_cons_of_mem _ (List.mem_append_right _ (List.mem_cons_of_mem _ (List.mem_append_right _ (List.mem_cons_of_mem _ (List.mem_append_right _ (List.mem_cons_of_mem _ (List.mem_append_right _ (List.mem_cons_of_mem _ (List.mem_append_right _ (List.mem_cons_of_mem _ (List.mem_append_right _ (List.mem_cons_of_mem _ (List.mem_append_right _ (List.mem_cons_of_mem _ (List.mem_append_right _ (List.mem_cons_of_mem _ h))))))))))))))))))

theorem mem_KOps_reg0 : regOp0 ∈ KOps := by
  unfold KOps
  exact (List.mem_append_right _ List.mem_cons_self)

theorem mem_KOps_reg1 : regOp1 ∈ KOps := by
  unfold KOps
  exact (List.mem_append_right _ (List.mem_cons_of_mem _ (List.mem_append_right _ List.mem_cons_self)))

theorem mem_KOps_reg2 : regOp2 ∈ KOps := by
  unfold KOps
  exact (List.mem_append_right _ (List.mem_cons_of_mem _ (List.mem_append_right _ (List.mem_cons_of_mem _ (List.mem_append_right _ List.mem_cons_self)))))

theorem mem_KOps_reg3 : regOp3 ∈ KOps := by
  unfold KOps
  exact (List.mem_append_right _ (List.mem_cons_of_mem _ (List.mem_append_right _ (List.mem_cons_of_mem _ (List.mem_append_right _ (List.mem_cons_of_mem _ (List.mem_append_right _ List.mem_cons_self)))))))

theorem mem_KOps_reg4 : regOp4 ∈ KOps := by
  unfold KOps
  exact (List.mem_append_right _ (List.mem_cons_of_mem _ (List.mem_append_right _ (List.mem_cons_of_mem _ (List.mem_append_right _ (List.mem_cons_of_mem _ (List.mem_append_right _ (List.mem_cons_of_mem _ (List.mem_append_right _ List.mem_cons_self)))))))))

theorem mem_KOps_reg5 : regOp5 ∈ KOps := by
  unfold KOps
  exact (List.mem_append_right _ (List.mem_cons_of_mem _ (List.mem_append_right _ (List.mem_cons_of_mem _ (List.mem_append_right _ (List.mem_cons_of_mem _ (List.mem_append_right _ (List.mem_cons_of_mem _ (List.mem_append_right _ (List.mem_cons_of_mem _ (List.mem_append_right _ List.mem_cons_self)))))))))))

theorem mem_KOps_reg6 : regOp6 ∈ KOps := by
  unfold KOps
  exact (List.mem_append_right _ (List.mem_cons_of_mem _ (List.mem_append_right _ (List.mem_cons_of_mem _ (List.mem_append_right _ (List.mem_cons_of_mem _ (List.mem_append_right _ (List.mem_cons_of_mem _ (List.mem_append_right _ (List.mem_cons_of_mem _ (List.mem_append_right _ (List.mem_cons_of_mem _ (List.mem_append_right _ List.mem_cons_self)))))))))))))

theorem mem_KOps_reg7 : regOp7 ∈ KOps := by
  unfold KOps
  exact (List.mem_append_right _ (List.mem_cons_of_mem _ (List.mem_append_right _ (List.mem_cons_of_mem _ (List.mem_append_right _ (List.mem_cons_of_mem _ (List.mem_append_right _ (List.mem_cons_of_mem _ (List.mem_append_right _ (List.mem_cons_of_mem _ (List.mem_append_right _ (List.mem_cons_of_mem _ (List.mem_append_right _ (List.mem_cons_of_mem _ (List.mem_append_right _ List.mem_cons_self)))))))))))))))

theorem mem_KOps_reg8 : regOp8 ∈ KOps := by
  unfold KOps
  exact (List.mem_append_right _ (List.mem_cons_of_mem _ (List.mem_append_right _ (List.mem_cons_of_mem _ (List.mem_append_right _ (List.mem_cons_of_mem _ (List.mem_append_right _ (List.mem_cons_of_mem _ (List.mem_append_right _ (List.mem_cons_of_mem _ (List.mem_append_right _ (List.mem_cons_of_mem _ (List.mem_append_right _ (List.mem_cons_of_mem _ (List.mem_append_right _ (List.mem_cons_of_mem _ (List.mem_append_right _ List.mem_cons_self)))))))))))))))))

/-! ## A stretch within its list of stretches -/

theorem mem_st_0 {op : HloOp τ sig (Elt Ideal)} (h : op ∈ (hostOps0 (F := Ideal))) : op ∈ (st0 : List (HS Ideal)).flatMap (·.ops) :=
  List.mem_flatMap.2 ⟨s0, by unfold st0; exact List.mem_cons_self, h⟩

theorem mem_st_1 {op : HloOp τ sig (Elt Ideal)} (h : op ∈ (hostOps1 (F := Ideal))) : op ∈ (st1 : List (HS Ideal)).flatMap (·.ops) :=
  List.mem_flatMap.2 ⟨s1, by unfold st1; exact List.mem_cons_self, h⟩

theorem mem_st_2 {op : HloOp τ sig (Elt Ideal)} (h : op ∈ (hostOps2 (F := Ideal))) : op ∈ (st2 : List (HS Ideal)).flatMap (·.ops) :=
  List.mem_flatMap.2 ⟨s2, by unfold st2; exact List.mem_cons_self, h⟩

theorem mem_st_3 {op : HloOp τ sig (Elt Ideal)} (h : op ∈ (hostOps3 (F := Ideal))) : op ∈ (st3 : List (HS Ideal)).flatMap (·.ops) :=
  List.mem_flatMap.2 ⟨s3, by unfold st3; exact List.mem_cons_self, h⟩

theorem mem_st_4 {op : HloOp τ sig (Elt Ideal)} (h : op ∈ (hostOps4 (F := Ideal))) : op ∈ (st4 : List (HS Ideal)).flatMap (·.ops) :=
  List.mem_flatMap.2 ⟨s4, by unfold st4; exact List.mem_cons_self, h⟩

theorem mem_st_5 {op : HloOp τ sig (Elt Ideal)} (h : op ∈ (hostOps5 (F := Ideal))) : op ∈ (st5 : List (HS Ideal)).flatMap (·.ops) :=
  List.mem_flatMap.2 ⟨s5, by unfold st5; exact List.mem_cons_self, h⟩

theorem mem_st_6 {op : HloOp τ sig (Elt Ideal)} (h : op ∈ (hostOps6 (F := Ideal))) : op ∈ (st6 : List (HS Ideal)).flatMap (·.ops) :=
  List.mem_flatMap.2 ⟨s6, by unfold st6; exact List.mem_cons_self, h⟩

theorem mem_st_6_1 {op : HloOp τ sig (Elt Ideal)} (h : op ∈ (hostOps6_1 (F := Ideal))) : op ∈ (st6 : List (HS Ideal)).flatMap (·.ops) :=
  List.mem_flatMap.2 ⟨s6_1, by unfold st6; exact (List.mem_cons_of_mem _ List.mem_cons_self), h⟩

theorem mem_st_6_2 {op : HloOp τ sig (Elt Ideal)} (h : op ∈ (hostOps6_2 (F := Ideal))) : op ∈ (st6 : List (HS Ideal)).flatMap (·.ops) :=
  List.mem_flatMap.2 ⟨s6_2, by unfold st6; exact (List.mem_cons_of_mem _ (List.mem_cons_of_mem _ List.mem_cons_self)), h⟩

theorem mem_st_7 {op : HloOp τ sig (Elt Ideal)} (h : op ∈ (hostOps7 (F := Ideal))) : op ∈ (st7 : List (HS Ideal)).flatMap (·.ops) :=
  List.mem_flatMap.2 ⟨s7, by unfold st7; exact List.mem_cons_self, h⟩

theorem mem_st_7_1 {op : HloOp τ sig (Elt Ideal)} (h : op ∈ (hostOps7_1 (F := Ideal))) : op ∈ (st7 : List (HS Ideal)).flatMap (·.ops) :=
  List.mem_flatMap.2 ⟨s7_1, by unfold st7; exact (List.mem_cons_of_mem _ List.mem_cons_self), h⟩

theorem mem_st_7_2 {op : HloOp τ sig (Elt Ideal)} (h : op ∈ (hostOps7_2 (F := Ideal))) : op ∈ (st7 : List (HS Ideal)).flatMap (·.ops) :=
  List.mem_flatMap.2 ⟨s7_2, by unfold st7; exact (List.mem_cons_of_mem _ (List.mem_cons_of_mem _ List.mem_cons_self)), h⟩

theorem mem_st_7_3 {op : HloOp τ sig (Elt Ideal)} (h : op ∈ (hostOps7_3 (F := Ideal))) : op ∈ (st7 : List (HS Ideal)).flatMap (·.ops) :=
  List.mem_flatMap.2 ⟨s7_3, by unfold st7; exact (List.mem_cons_of_mem _ (List.mem_cons_of_mem _ (List.mem_cons_of_mem _ List.mem_cons_self))), h⟩

theorem mem_st_7_4 {op : HloOp τ sig (Elt Ideal)} (h : op ∈ (hostOps7_4 (F := Ideal))) : op ∈ (st7 : List (HS Ideal)).flatMap (·.ops) :=
  List.mem_flatMap.2 ⟨s7_4, by unfold st7; exact (List.mem_cons_of_mem _ (List.mem_cons_of_mem _ (List.mem_cons_of_mem _ (List.mem_cons_of_mem _ List.mem_cons_self)))), h⟩

theorem mem_st_7_5 {op : HloOp τ sig (Elt Ideal)} (h : op ∈ (hostOps7_5 (F := Ideal))) : op ∈ (st7 : List (HS Ideal)).flatMap (·.ops) :=
  List.mem_flatMap.2 ⟨s7_5, by unfold st7; exact (List.mem_cons_of_mem _ (List.mem_cons_of_mem _ (List.mem_cons_of_mem _ (List.mem_cons_of_mem _ (List.mem_cons_of_mem _ List.mem_cons_self))))), h⟩

theorem mem_st_7_6 {op : HloOp τ sig (Elt Ideal)} (h : op ∈ (hostOps7_6 (F := Ideal))) : op ∈ (st7 : List (HS Ideal)).flatMap (·.ops) :=
  List.mem_flatMap.2 ⟨s7_6, by unfold st7; exact (List.mem_cons_of_mem _ (List.mem_cons_of_mem _ (List.mem_cons_of_mem _ (List.mem_cons_of_mem _ (List.mem_cons_of_mem _ (List.mem_cons_of_mem _ List.mem_cons_self)))))), h⟩

theorem mem_st_7_7 {op : HloOp τ sig (Elt Ideal)} (h : op ∈ (hostOps7_7 (F := Ideal))) : op ∈ (st7 : List (HS Ideal)).flatMap (·.ops) :=
  List.mem_flatMap.2 ⟨s7_7, by unfold st7; exact (List.mem_cons_of_mem _ (List.mem_cons_of_mem _ (List.mem_cons_of_mem _ (List.mem_cons_of_mem _ (List.mem_cons_of_mem _ (List.mem_cons_of_mem _ (List.mem_cons_of_mem _ List.mem_cons_self))))))), h⟩

theorem mem_st_7_8 {op : HloOp τ sig (Elt Ideal)} (h : op ∈ (hostOps7_8 (F := Ideal))) : op ∈ (st7 : List (HS Ideal)).flatMap (·.ops) :=
  List.mem_flatMap.2 ⟨s7_8, by unfold st7; exact (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))), h⟩

theorem mem_st_7_9 {op : HloOp τ sig (Elt Ideal)} (h : op ∈ (hostOps7_9 (F := Ideal))) : op ∈ (st7 : List (HS Ideal)).flatMap (·.ops) :=
  List.mem_flatMap.2 ⟨s7_9, by unfold st7; exact (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))), h⟩

theorem mem_st_7_10 {op : HloOp τ sig (Elt Ideal)} (h : op ∈ (hostOps7_10 (F := Ideal))) : op ∈ (st7 : List (HS Ideal)).flatMap (·.ops) :=
  List.mem_flatMap.2 ⟨s7_10, by unfold st7; exact (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))), h⟩

theorem mem_st_7_11 {op : HloOp τ sig (Elt Ideal)} (h : op ∈ (hostOps7_11 (F := Ideal))) : op ∈ (st7 : List (HS Ideal)).flatMap (·.ops) :=
  List.mem_flatMap.2 ⟨s7_11, by unfold st7; exact (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))), h⟩

theorem mem_st_7_12 {op : HloOp τ sig (Elt Ideal)} (h : op ∈ (hostOps7_12 (F := Ideal))) : op ∈ (st7 : List (HS Ideal)).flatMap (·.ops) :=
  List.mem_flatMap.2 ⟨s7_12, by unfold st7; exact (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))), h⟩

theorem mem_st_7_13 {op : HloOp τ sig (Elt Ideal)} (h : op ∈ (hostOps7_13 (F := Ideal))) : op ∈ (st7 : List (HS Ideal)).flatMap (·.ops) :=
  List.mem_flatMap.2 ⟨s7_13, by unfold st7; exact (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))), h⟩

theorem mem_st_7_14 {op : HloOp τ sig (Elt Ideal)} (h : op ∈ (hostOps7_14 (F := Ideal))) : op ∈ (st7 : List (HS Ideal)).flatMap (·.ops) :=
  List.mem_flatMap.2 ⟨s7_14, by unfold st7; exact (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))))), h⟩

theorem mem_st_7_15 {op : HloOp τ sig (Elt Ideal)} (h : op ∈ (hostOps7_15 (F := Ideal))) : op ∈ (st7 : List (HS Ideal)).flatMap (·.ops) :=
  List.mem_flatMap.2 ⟨s7_15, by unfold st7; exact (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))))), h⟩

theorem mem_st_7_16 {op : HloOp τ sig (Elt Ideal)} (h : op ∈ (hostOps7_16 (F := Ideal))) : op ∈ (st7 : List (HS Ideal)).flatMap (·.ops) :=
  List.mem_flatMap.2 ⟨s7_16, by unfold st7; exact (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))))))), h⟩

theorem mem_st_7_17 {op : HloOp τ sig (Elt Ideal)} (h : op ∈ (hostOps7_17 (F := Ideal))) : op ∈ (st7 : List (HS Ideal)).flatMap (·.ops) :=
  List.mem_flatMap.2 ⟨s7_17, by unfold st7; exact (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))))))), h⟩

theorem mem_st_7_18 {op : HloOp τ sig (Elt Ideal)} (h : op ∈ (hostOps7_18 (F := Ideal))) : op ∈ (st7 : List (HS Ideal)).flatMap (·.ops) :=
  List.mem_flatMap.2 ⟨s7_18, by unfold st7; exact (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))))))))), h⟩

theorem mem_st_7_19 {op : HloOp τ sig (Elt Ideal)} (h : op ∈ (hostOps7_19 (F := Ideal))) : op ∈ (st7 : List (HS Ideal)).flatMap (·.ops) :=
  List.mem_flatMap.2 ⟨s7_19, by unfold st7; exact (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))))))))), h⟩

theorem mem_st_7_20 {op : HloOp τ sig (Elt Ideal)} (h : op ∈ (hostOps7_20 (F := Ideal))) : op ∈ (st7 : List (HS Ideal)).flatMap (·.ops) :=
  List.mem_flatMap.2 ⟨s7_20, by unfold st7; exact (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))))))))))), h⟩

theorem mem_st_7_21 {op : HloOp τ sig (Elt Ideal)} (h : op ∈ (hostOps7_21 (F := Ideal))) : op ∈ (st7 : List (HS Ideal)).flatMap (·.ops) :=
  List.mem_flatMap.2 ⟨s7_21, by unfold st7; exact (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))))))))))), h⟩

theorem mem_st_7_22 {op : HloOp τ sig (Elt Ideal)} (h : op ∈ (hostOps7_22 (F := Ideal))) : op ∈ (st7 : List (HS Ideal)).flatMap (·.ops) :=
  List.mem_flatMap.2 ⟨s7_22, by unfold st7; exact (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))))))))))))), h⟩

theorem mem_st_7_23 {op : HloOp τ sig (Elt Ideal)} (h : op ∈ (hostOps7_23 (F := Ideal))) : op ∈ (st7 : List (HS Ideal)).flatMap (·.ops) :=
  List.mem_flatMap.2 ⟨s7_23, by unfold st7; exact (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))))))))))))), h⟩

theorem mem_st_7_24 {op : HloOp τ sig (Elt Ideal)} (h : op ∈ (hostOps7_24 (F := Ideal))) : op ∈ (st7 : List (HS Ideal)).flatMap (·.ops) :=
  List.mem_flatMap.2 ⟨s7_24, by unfold st7; exact (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))))))))))))))), h⟩

theorem mem_st_7_25 {op : HloOp τ sig (Elt Ideal)} (h : op ∈ (hostOps7_25 (F := Ideal))) : op ∈ (st7 : List (HS Ideal)).flatMap (·.ops) :=
  List.mem_flatMap.2 ⟨s7_25, by unfold st7; exact (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))))))))))))))), h⟩

theorem mem_st_7_26 {op : HloOp τ sig (Elt Ideal)} (h : op ∈ (hostOps7_26 (F := Ideal))) : op ∈ (st7 : List (HS Ideal)).flatMap (·.ops) :=
  List.mem_flatMap.2 ⟨s7_26, by unfold st7; exact (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))))))))))))))))), h⟩

theorem mem_st_7_27 {op : HloOp τ sig (Elt Ideal)} (h : op ∈ (hostOps7_27 (F := Ideal))) : op ∈ (st7 : List (HS Ideal)).flatMap (·.ops) :=
  List.mem_flatMap.2 ⟨s7_27, by unfold st7; exact (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))))))))))))))))), h⟩

theorem mem_st_7_28 {op : HloOp τ sig (Elt Ideal)} (h : op ∈ (hostOps7_28 (F := Ideal))) : op ∈ (st7 : List (HS Ideal)).flatMap (·.ops) :=
  List.mem_flatMap.2 ⟨s7_28, by unfold st7; exact (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))))))))))))))))))), h⟩

theorem mem_st_7_29 {op : HloOp τ sig (Elt Ideal)} (h : op ∈ (hostOps7_29 (F := Ideal))) : op ∈ (st7 : List (HS Ideal)).flatMap (·.ops) :=
  List.mem_flatMap.2 ⟨s7_29, by unfold st7; exact (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))))))))))))))))))), h⟩

theorem mem_st_7_30 {op : HloOp τ sig (Elt Ideal)} (h : op ∈ (hostOps7_30 (F := Ideal))) : op ∈ (st7 : List (HS Ideal)).flatMap (·.ops) :=
  List.mem_flatMap.2 ⟨s7_30, by unfold st7; exact (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))))))))))))))))))))), h⟩

theorem mem_st_7_31 {op : HloOp τ sig (Elt Ideal)} (h : op ∈ (hostOps7_31 (F := Ideal))) : op ∈ (st7 : List (HS Ideal)).flatMap (·.ops) :=
  List.mem_flatMap.2 ⟨s7_31, by unfold st7; exact (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))))))))))))))))))))), h⟩

theorem mem_st_7_32 {op : HloOp τ sig (Elt Ideal)} (h : op ∈ (hostOps7_32 (F := Ideal))) : op ∈ (st7 : List (HS Ideal)).flatMap (·.ops) :=
  List.mem_flatMap.2 ⟨s7_32, by unfold st7; exact (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))))))))))))))))))))))), h⟩

theorem mem_st_7_33 {op : HloOp τ sig (Elt Ideal)} (h : op ∈ (hostOps7_33 (F := Ideal))) : op ∈ (st7 : List (HS Ideal)).flatMap (·.ops) :=
  List.mem_flatMap.2 ⟨s7_33, by unfold st7; exact (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))))))))))))))))))))))), h⟩

theorem mem_st_7_34 {op : HloOp τ sig (Elt Ideal)} (h : op ∈ (hostOps7_34 (F := Ideal))) : op ∈ (st7 : List (HS Ideal)).flatMap (·.ops) :=
  List.mem_flatMap.2 ⟨s7_34, by unfold st7; exact (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))))))))))))))))))))))))), h⟩

theorem mem_st_7_35 {op : HloOp τ sig (Elt Ideal)} (h : op ∈ (hostOps7_35 (F := Ideal))) : op ∈ (st7 : List (HS Ideal)).flatMap (·.ops) :=
  List.mem_flatMap.2 ⟨s7_35, by unfold st7; exact (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))))))))))))))))))))))))), h⟩

theorem mem_st_7_36 {op : HloOp τ sig (Elt Ideal)} (h : op ∈ (hostOps7_36 (F := Ideal))) : op ∈ (st7 : List (HS Ideal)).flatMap (·.ops) :=
  List.mem_flatMap.2 ⟨s7_36, by unfold st7; exact (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))))))))))))))))))))))))))), h⟩

theorem mem_st_7_37 {op : HloOp τ sig (Elt Ideal)} (h : op ∈ (hostOps7_37 (F := Ideal))) : op ∈ (st7 : List (HS Ideal)).flatMap (·.ops) :=
  List.mem_flatMap.2 ⟨s7_37, by unfold st7; exact (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))))))))))))))))))))))))))), h⟩

theorem mem_st_7_38 {op : HloOp τ sig (Elt Ideal)} (h : op ∈ (hostOps7_38 (F := Ideal))) : op ∈ (st7 : List (HS Ideal)).flatMap (·.ops) :=
  List.mem_flatMap.2 ⟨s7_38, by unfold st7; exact (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))))))))))))))))))))))))))))), h⟩

theorem mem_st_7_39 {op : HloOp τ sig (Elt Ideal)} (h : op ∈ (hostOps7_39 (F := Ideal))) : op ∈ (st7 : List (HS Ideal)).flatMap (·.ops) :=
  List.mem_flatMap.2 ⟨s7_39, by unfold st7; exact (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))))))))))))))))))))))))))))), h⟩

theorem mem_st_7_40 {op : HloOp τ sig (Elt Ideal)} (h : op ∈ (hostOps7_40 (F := Ideal))) : op ∈ (st7 : List (HS Ideal)).flatMap (·.ops) :=
  List.mem_flatMap.2 ⟨s7_40, by unfold st7; exact (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))))))))))))))))))))))))))))))), h⟩

theorem mem_st_7_41 {op : HloOp τ sig (Elt Ideal)} (h : op ∈ (hostOps7_41 (F := Ideal))) : op ∈ (st7 : List (HS Ideal)).flatMap (·.ops) :=
  List.mem_flatMap.2 ⟨s7_41, by unfold st7; exact (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))))))))))))))))))))))))))))))), h⟩

theorem mem_st_7_42 {op : HloOp τ sig (Elt Ideal)} (h : op ∈ (hostOps7_42 (F := Ideal))) : op ∈ (st7 : List (HS Ideal)).flatMap (·.ops) :=
  List.mem_flatMap.2 ⟨s7_42, by unfold st7; exact (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))))))))))))))))))))))))))))))))), h⟩

theorem mem_st_7_43 {op : HloOp τ sig (Elt Ideal)} (h : op ∈ (hostOps7_43 (F := Ideal))) : op ∈ (st7 : List (HS Ideal)).flatMap (·.ops) :=
  List.mem_flatMap.2 ⟨s7_43, by unfold st7; exact (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))))))))))))))))))))))))))))))))), h⟩

theorem mem_st_7_44 {op : HloOp τ sig (Elt Ideal)} (h : op ∈ (hostOps7_44 (F := Ideal))) : op ∈ (st7 : List (HS Ideal)).flatMap (·.ops) :=
  List.mem_flatMap.2 ⟨s7_44, by unfold st7; exact (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))))))))))))))))))))))))))))))))))), h⟩

theorem mem_st_7_45 {op : HloOp τ sig (Elt Ideal)} (h : op ∈ (hostOps7_45 (F := Ideal))) : op ∈ (st7 : List (HS Ideal)).flatMap (·.ops) :=
  List.mem_flatMap.2 ⟨s7_45, by unfold st7; exact (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))))))))))))))))))))))))))))))))))), h⟩

theorem mem_st_7_46 {op : HloOp τ sig (Elt Ideal)} (h : op ∈ (hostOps7_46 (F := Ideal))) : op ∈ (st7 : List (HS Ideal)).flatMap (·.ops) :=
  List.mem_flatMap.2 ⟨s7_46, by unfold st7; exact (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))))))))))))))))))))))))))))))))))))), h⟩

theorem mem_st_7_47 {op : HloOp τ sig (Elt Ideal)} (h : op ∈ (hostOps7_47 (F := Ideal))) : op ∈ (st7 : List (HS Ideal)).flatMap (·.ops) :=
  List.mem_flatMap.2 ⟨s7_47, by unfold st7; exact (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))))))))))))))))))))))))))))))))))))), h⟩

theorem mem_st_7_48 {op : HloOp τ sig (Elt Ideal)} (h : op ∈ (hostOps7_48 (F := Ideal))) : op ∈ (st7 : List (HS Ideal)).flatMap (·.ops) :=
  List.mem_flatMap.2 ⟨s7_48, by unfold st7; exact (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))))))))))))))))))))))))))))))))))))))), h⟩

theorem mem_st_7_49 {op : HloOp τ sig (Elt Ideal)} (h : op ∈ (hostOps7_49 (F := Ideal))) : op ∈ (st7 : List (HS Ideal)).flatMap (·.ops) :=
  List.mem_flatMap.2 ⟨s7_49, by unfold st7; exact (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))))))))))))))))))))))))))))))))))))))), h⟩

theorem mem_st_7_50 {op : HloOp τ sig (Elt Ideal)} (h : op ∈ (hostOps7_50 (F := Ideal))) : op ∈ (st7 : List (HS Ideal)).flatMap (·.ops) :=
  List.mem_flatMap.2 ⟨s7_50, by unfold st7; exact (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))))))))))))))))))))))))))))))))))))))))), h⟩

theorem mem_st_8 {op : HloOp τ sig (Elt Ideal)} (h : op ∈ (hostOps8 (F := Ideal))) : op ∈ (st8 : List (HS Ideal)).flatMap (·.ops) :=
  List.mem_flatMap.2 ⟨s8, by unfold st8; exact List.mem_cons_self, h⟩

theorem mem_st_8_1 {op : HloOp τ sig (Elt Ideal)} (h : op ∈ (hostOps8_1 (F := Ideal))) : op ∈ (st8 : List (HS Ideal)).flatMap (·.ops) :=
  List.mem_flatMap.2 ⟨s8_1, by unfold st8; exact (List.mem_cons_of_mem _ List.mem_cons_self), h⟩

theorem mem_st_8_2 {op : HloOp τ sig (Elt Ideal)} (h : op ∈ (hostOps8_2 (F := Ideal))) : op ∈ (st8 : List (HS Ideal)).flatMap (·.ops) :=
  List.mem_flatMap.2 ⟨s8_2, by unfold st8; exact (List.mem_cons_of_mem _ (List.mem_cons_of_mem _ List.mem_cons_self)), h⟩

theorem mem_st_9 {op : HloOp τ sig (Elt Ideal)} (h : op ∈ (hostOps9 (F := Ideal))) : op ∈ (st9 : List (HS Ideal)).flatMap (·.ops) :=
  List.mem_flatMap.2 ⟨s9, by unfold st9; exact List.mem_cons_self, h⟩

theorem mem_st_9_1 {op : HloOp τ sig (Elt Ideal)} (h : op ∈ (hostOps9_1 (F := Ideal))) : op ∈ (st9 : List (HS Ideal)).flatMap (·.ops) :=
  List.mem_flatMap.2 ⟨s9_1, by unfold st9; exact (List.mem_cons_of_mem _ List.mem_cons_self), h⟩

theorem mem_st_9_2 {op : HloOp τ sig (Elt Ideal)} (h : op ∈ (hostOps9_2 (F := Ideal))) : op ∈ (st9 : List (HS Ideal)).flatMap (·.ops) :=
  List.mem_flatMap.2 ⟨s9_2, by unfold st9; exact (List.mem_cons_of_mem _ (List.mem_cons_of_mem _ List.mem_cons_self)), h⟩

theorem mem_st_9_3 {op : HloOp τ sig (Elt Ideal)} (h : op ∈ (hostOps9_3 (F := Ideal))) : op ∈ (st9 : List (HS Ideal)).flatMap (·.ops) :=
  List.mem_flatMap.2 ⟨s9_3, by unfold st9; exact (List.mem_cons_of_mem _ (List.mem_cons_of_mem _ (List.mem_cons_of_mem _ List.mem_cons_self))), h⟩

theorem mem_st_9_4 {op : HloOp τ sig (Elt Ideal)} (h : op ∈ (hostOps9_4 (F := Ideal))) : op ∈ (st9 : List (HS Ideal)).flatMap (·.ops) :=
  List.mem_flatMap.2 ⟨s9_4, by unfold st9; exact (List.mem_cons_of_mem _ (List.mem_cons_of_mem _ (List.mem_cons_of_mem _ (List.mem_cons_of_mem _ List.mem_cons_self)))), h⟩

theorem mem_st_9_5 {op : HloOp τ sig (Elt Ideal)} (h : op ∈ (hostOps9_5 (F := Ideal))) : op ∈ (st9 : List (HS Ideal)).flatMap (·.ops) :=
  List.mem_flatMap.2 ⟨s9_5, by unfold st9; exact (List.mem_cons_of_mem _ (List.mem_cons_of_mem _ (List.mem_cons_of_mem _ (List.mem_cons_of_mem _ (List.mem_cons_of_mem _ List.mem_cons_self))))), h⟩

theorem mem_st_9_6 {op : HloOp τ sig (Elt Ideal)} (h : op ∈ (hostOps9_6 (F := Ideal))) : op ∈ (st9 : List (HS Ideal)).flatMap (·.ops) :=
  List.mem_flatMap.2 ⟨s9_6, by unfold st9; exact (List.mem_cons_of_mem _ (List.mem_cons_of_mem _ (List.mem_cons_of_mem _ (List.mem_cons_of_mem _ (List.mem_cons_of_mem _ (List.mem_cons_of_mem _ List.mem_cons_self)))))), h⟩

theorem mem_st_9_7 {op : HloOp τ sig (Elt Ideal)} (h : op ∈ (hostOps9_7 (F := Ideal))) : op ∈ (st9 : List (HS Ideal)).flatMap (·.ops) :=
  List.mem_flatMap.2 ⟨s9_7, by unfold st9; exact (List.mem_cons_of_mem _ (List.mem_cons_of_mem _ (List.mem_cons_of_mem _ (List.mem_cons_of_mem _ (List.mem_cons_of_mem _ (List.mem_cons_of_mem _ (List.mem_cons_of_mem _ List.mem_cons_self))))))), h⟩

theorem mem_st_9_8 {op : HloOp τ sig (Elt Ideal)} (h : op ∈ (hostOps9_8 (F := Ideal))) : op ∈ (st9 : List (HS Ideal)).flatMap (·.ops) :=
  List.mem_flatMap.2 ⟨s9_8, by unfold st9; exact (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))), h⟩

theorem mem_st_9_9 {op : HloOp τ sig (Elt Ideal)} (h : op ∈ (hostOps9_9 (F := Ideal))) : op ∈ (st9 : List (HS Ideal)).flatMap (·.ops) :=
  List.mem_flatMap.2 ⟨s9_9, by unfold st9; exact (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))), h⟩

theorem mem_st_9_10 {op : HloOp τ sig (Elt Ideal)} (h : op ∈ (hostOps9_10 (F := Ideal))) : op ∈ (st9 : List (HS Ideal)).flatMap (·.ops) :=
  List.mem_flatMap.2 ⟨s9_10, by unfold st9; exact (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))), h⟩

theorem mem_st_9_11 {op : HloOp τ sig (Elt Ideal)} (h : op ∈ (hostOps9_11 (F := Ideal))) : op ∈ (st9 : List (HS Ideal)).flatMap (·.ops) :=
  List.mem_flatMap.2 ⟨s9_11, by unfold st9; exact (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))), h⟩

end Cert.KernelIdeal.Hand

end
-- ==== Proof.Val.Base.lean ====
/- The value claim's chain, its two hypotheses.

   The kernel program's final valuation is the fold of its one operation list (the nine regions as products) over the
   launch contents; the reference's is the fold of its list. Both lists write buffers of increasing index, so each buffer
   satisfies its operation's equation at the final valuation, and the claim follows buffer pair by buffer pair. Two facts
   enter the chain as hypotheses and are supplied at the assembly: the two memories agree on the argument arrays (the
   claim's own hypothesis), and the reference's transposes of its symmetric 0/1 matrices hold what their operands hold
   (proved in the reference's symmetry modules). -/
import proofs.«146970_j35948876268088_1_alg».proof.Proof.KI.OneList
import proofs.«146970_j35948876268088_1_alg».proof.Proof.KI.Mem
import proofs.«146970_j35948876268088_1_alg».proof.Proof.Ref.Asc
import proofs.«146970_j35948876268088_1_alg».proof.Proof.Ref.Mem
import proofs.«146970_j35948876268088_1_alg».proof.Proof.Gen.KernelIdeal
import proofs.«146970_j35948876268088_1_alg».proof.Proof.Gen.ReferenceIdeal
import proofs.«146970_j35948876268088_1_alg».proof.Proof.LibAscending
import Idealize.ShloMosaic.PureOps.Ideal

set_option maxRecDepth 16384

noncomputable section

namespace Cert.Value

open Idealize.ShloMosaic Idealize.ShloMosaic.TcCoe Idealize.SL.Sem

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ)

/-- The two memories agree on the twelve argument arrays. -/
def Agree : Prop := ∀ c : Dev Cert.KernelIdeal.nD,
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
  ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
  ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
  ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
  ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
  ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
  ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)

/-- The reference's transposes of its two symmetric 0/1 matrices (edge, and H), each holding what its operand holds. -/
structure Els (c : Dev Cert.KernelIdeal.nD) : Prop where
  el_main_v118 : StableHlo.after (Cert.ReferenceIdeal.Hand.ops (F := Ideal)) (StableHlo.launchContents m' c) (Proc.devRef .tc Cert.ReferenceIdeal.main_v118) = StableHlo.after (Cert.ReferenceIdeal.Hand.ops (F := Ideal)) (StableHlo.launchContents m' c) (Proc.devRef .tc Cert.ReferenceIdeal.main_v117)
  el_main_v130 : StableHlo.after (Cert.ReferenceIdeal.Hand.ops (F := Ideal)) (StableHlo.launchContents m' c) (Proc.devRef .tc Cert.ReferenceIdeal.main_v130) = StableHlo.after (Cert.ReferenceIdeal.Hand.ops (F := Ideal)) (StableHlo.launchContents m' c) (Proc.devRef .tc Cert.ReferenceIdeal.main_v122)
  el_main_v1286 : StableHlo.after (Cert.ReferenceIdeal.Hand.ops (F := Ideal)) (StableHlo.launchContents m' c) (Proc.devRef .tc Cert.ReferenceIdeal.main_v1286) = StableHlo.after (Cert.ReferenceIdeal.Hand.ops (F := Ideal)) (StableHlo.launchContents m' c) (Proc.devRef .tc Cert.ReferenceIdeal.main_v122)
  el_main_v1341 : StableHlo.after (Cert.ReferenceIdeal.Hand.ops (F := Ideal)) (StableHlo.launchContents m' c) (Proc.devRef .tc Cert.ReferenceIdeal.main_v1341) = StableHlo.after (Cert.ReferenceIdeal.Hand.ops (F := Ideal)) (StableHlo.launchContents m' c) (Proc.devRef .tc Cert.ReferenceIdeal.main_v122)
  el_main_v1410 : StableHlo.after (Cert.ReferenceIdeal.Hand.ops (F := Ideal)) (StableHlo.launchContents m' c) (Proc.devRef .tc Cert.ReferenceIdeal.main_v1410) = StableHlo.after (Cert.ReferenceIdeal.Hand.ops (F := Ideal)) (StableHlo.launchContents m' c) (Proc.devRef .tc Cert.ReferenceIdeal.main_v122)
  el_main_v1465 : StableHlo.after (Cert.ReferenceIdeal.Hand.ops (F := Ideal)) (StableHlo.launchContents m' c) (Proc.devRef .tc Cert.ReferenceIdeal.main_v1465) = StableHlo.after (Cert.ReferenceIdeal.Hand.ops (F := Ideal)) (StableHlo.launchContents m' c) (Proc.devRef .tc Cert.ReferenceIdeal.main_v122)
  el_main_v1534 : StableHlo.after (Cert.ReferenceIdeal.Hand.ops (F := Ideal)) (StableHlo.launchContents m' c) (Proc.devRef .tc Cert.ReferenceIdeal.main_v1534) = StableHlo.after (Cert.ReferenceIdeal.Hand.ops (F := Ideal)) (StableHlo.launchContents m' c) (Proc.devRef .tc Cert.ReferenceIdeal.main_v122)
  el_main_v1589 : StableHlo.after (Cert.ReferenceIdeal.Hand.ops (F := Ideal)) (StableHlo.launchContents m' c) (Proc.devRef .tc Cert.ReferenceIdeal.main_v1589) = StableHlo.after (Cert.ReferenceIdeal.Hand.ops (F := Ideal)) (StableHlo.launchContents m' c) (Proc.devRef .tc Cert.ReferenceIdeal.main_v122)
  el_main_v1658 : StableHlo.after (Cert.ReferenceIdeal.Hand.ops (F := Ideal)) (StableHlo.launchContents m' c) (Proc.devRef .tc Cert.ReferenceIdeal.main_v1658) = StableHlo.after (Cert.ReferenceIdeal.Hand.ops (F := Ideal)) (StableHlo.launchContents m' c) (Proc.devRef .tc Cert.ReferenceIdeal.main_v122)
  el_main_v1713 : StableHlo.after (Cert.ReferenceIdeal.Hand.ops (F := Ideal)) (StableHlo.launchContents m' c) (Proc.devRef .tc Cert.ReferenceIdeal.main_v1713) = StableHlo.after (Cert.ReferenceIdeal.Hand.ops (F := Ideal)) (StableHlo.launchContents m' c) (Proc.devRef .tc Cert.ReferenceIdeal.main_v122)
  el_main_v2166 : StableHlo.after (Cert.ReferenceIdeal.Hand.ops (F := Ideal)) (StableHlo.launchContents m' c) (Proc.devRef .tc Cert.ReferenceIdeal.main_v2166) = StableHlo.after (Cert.ReferenceIdeal.Hand.ops (F := Ideal)) (StableHlo.launchContents m' c) (Proc.devRef .tc Cert.ReferenceIdeal.main_v122)
  el_main_v2221 : StableHlo.after (Cert.ReferenceIdeal.Hand.ops (F := Ideal)) (StableHlo.launchContents m' c) (Proc.devRef .tc Cert.ReferenceIdeal.main_v2221) = StableHlo.after (Cert.ReferenceIdeal.Hand.ops (F := Ideal)) (StableHlo.launchContents m' c) (Proc.devRef .tc Cert.ReferenceIdeal.main_v122)

end Cert.Value

end
-- ==== Proof.Val.Args.lean ====
/- The chain's base pairs: an argument array's buffer holds, at either program's final valuation, what it held at launch (no
   operation writes it: its index lies below every written index), and the two memories agree on it. -/
import proofs.«146970_j35948876268088_1_alg».proof.Proof.Val.Base

set_option maxRecDepth 16384

noncomputable section

namespace Cert.Value

open Idealize.ShloMosaic Idealize.ShloMosaic.TcCoe Idealize.SL.Sem

variable {m : (ℓ : Loc Cert.KernelIdeal.nD Cert.KernelIdeal.τ Cert.KernelIdeal.sig) → Buf (Elt Ideal) ℓ} {ρ : Dev Cert.KernelIdeal.nD → PrngReg}
  {m' : (ℓ : Loc Cert.ReferenceIdeal.nD Cert.ReferenceIdeal.τ Cert.ReferenceIdeal.sig) → Buf (Elt Ideal) ℓ} {c : Dev Cert.KernelIdeal.nD} (hag : Agree m m') (hel : Els m' c)
include hag hel

theorem c_main_arg0__main_arg0 : StableHlo.after Cert.KernelIdeal.Hand.KOps (Cert.KernelIdeal.Hand.Wl (F := Ideal) m ρ c) (Proc.devRef .tc Cert.KernelIdeal.main_arg0) = StableHlo.after (Cert.ReferenceIdeal.Hand.ops (F := Ideal)) (StableHlo.launchContents m' c) (Proc.devRef .tc Cert.ReferenceIdeal.main_arg0) := by
  have hk := (Cert.KernelIdeal.Hand.KOps_asc).spared (r := Cert.KernelIdeal.main_arg0) rfl (by decide) (Cert.KernelIdeal.Hand.Wl (F := Ideal) m ρ c)
  have hr := (Cert.ReferenceIdeal.Hand.ops_asc (F := Ideal)).spared (r := Cert.ReferenceIdeal.main_arg0) rfl (by decide) (StableHlo.launchContents m' c)
  rw [hk, hr]
  exact ((hag c).1).symm

theorem c_main_arg1__main_arg1 : StableHlo.after Cert.KernelIdeal.Hand.KOps (Cert.KernelIdeal.Hand.Wl (F := Ideal) m ρ c) (Proc.devRef .tc Cert.KernelIdeal.main_arg1) = StableHlo.after (Cert.ReferenceIdeal.Hand.ops (F := Ideal)) (StableHlo.launchContents m' c) (Proc.devRef .tc Cert.ReferenceIdeal.main_arg1) := by
  have hk := (Cert.KernelIdeal.Hand.KOps_asc).spared (r := Cert.KernelIdeal.main_arg1) rfl (by decide) (Cert.KernelIdeal.Hand.Wl (F := Ideal) m ρ c)
  have hr := (Cert.ReferenceIdeal.Hand.ops_asc (F := Ideal)).spared (r := Cert.ReferenceIdeal.main_arg1) rfl (by decide) (StableHlo.launchContents m' c)
  rw [hk, hr]
  exact ((hag c).2.1).symm

theorem c_main_arg2__main_arg2 : StableHlo.after Cert.KernelIdeal.Hand.KOps (Cert.KernelIdeal.Hand.Wl (F := Ideal) m ρ c) (Proc.devRef .tc Cert.KernelIdeal.main_arg2) = StableHlo.after (Cert.ReferenceIdeal.Hand.ops (F := Ideal)) (StableHlo.launchContents m' c) (Proc.devRef .tc Cert.ReferenceIdeal.main_arg2) := by
  have hk := (Cert.KernelIdeal.Hand.KOps_asc).spared (r := Cert.KernelIdeal.main_arg2) rfl (by decide) (Cert.KernelIdeal.Hand.Wl (F := Ideal) m ρ c)
  have hr := (Cert.ReferenceIdeal.Hand.ops_asc (F := Ideal)).spared (r := Cert.ReferenceIdeal.main_arg2) rfl (by decide) (StableHlo.launchContents m' c)
  rw [hk, hr]
  exact ((hag c).2.2.1).symm

theorem c_main_arg3__main_arg3 : StableHlo.after Cert.KernelIdeal.Hand.KOps (Cert.KernelIdeal.Hand.Wl (F := Ideal) m ρ c) (Proc.devRef .tc Cert.KernelIdeal.main_arg3) = StableHlo.after (Cert.ReferenceIdeal.Hand.ops (F := Ideal)) (StableHlo.launchContents m' c) (Proc.devRef .tc Cert.ReferenceIdeal.main_arg3) := by
  have hk := (Cert.KernelIdeal.Hand.KOps_asc).spared (r := Cert.KernelIdeal.main_arg3) rfl (by decide) (Cert.KernelIdeal.Hand.Wl (F := Ideal) m ρ c)
  have hr := (Cert.ReferenceIdeal.Hand.ops_asc (F := Ideal)).spared (r := Cert.ReferenceIdeal.main_arg3) rfl (by decide) (StableHlo.launchContents m' c)
  rw [hk, hr]
  exact ((hag c).2.2.2.1).symm

theorem c_main_arg4__main_arg4 : StableHlo.after Cert.KernelIdeal.Hand.KOps (Cert.KernelIdeal.Hand.Wl (F := Ideal) m ρ c) (Proc.devRef .tc Cert.KernelIdeal.main_arg4) = StableHlo.after (Cert.ReferenceIdeal.Hand.ops (F := Ideal)) (StableHlo.launchContents m' c) (Proc.devRef .tc Cert.ReferenceIdeal.main_arg4) := by
  have hk := (Cert.KernelIdeal.Hand.KOps_asc).spared (r := Cert.KernelIdeal.main_arg4) rfl (by decide) (Cert.KernelIdeal.Hand.Wl (F := Ideal) m ρ c)
  have hr := (Cert.ReferenceIdeal.Hand.ops_asc (F := Ideal)).spared (r := Cert.ReferenceIdeal.main_arg4) rfl (by decide) (StableHlo.launchContents m' c)
  rw [hk, hr]
  exact ((hag c).2.2.2.2.1).symm

theorem c_main_arg5__main_arg5 : StableHlo.after Cert.KernelIdeal.Hand.KOps (Cert.KernelIdeal.Hand.Wl (F := Ideal) m ρ c) (Proc.devRef .tc Cert.KernelIdeal.main_arg5) = StableHlo.after (Cert.ReferenceIdeal.Hand.ops (F := Ideal)) (StableHlo.launchContents m' c) (Proc.devRef .tc Cert.ReferenceIdeal.main_arg5) := by
  have hk := (Cert.KernelIdeal.Hand.KOps_asc).spared (r := Cert.KernelIdeal.main_arg5) rfl (by decide) (Cert.KernelIdeal.Hand.Wl (F := Ideal) m ρ c)
  have hr := (Cert.ReferenceIdeal.Hand.ops_asc (F := Ideal)).spared (r := Cert.ReferenceIdeal.main_arg5) rfl (by decide) (StableHlo.launchContents m' c)
  rw [hk, hr]
  exact ((hag c).2.2.2.2.2.1).symm

theorem c_main_arg6__main_arg6 : StableHlo.after Cert.KernelIdeal.Hand.KOps (Cert.KernelIdeal.Hand.Wl (F := Ideal) m ρ c) (Proc.devRef .tc Cert.KernelIdeal.main_arg6) = StableHlo.after (Cert.ReferenceIdeal.Hand.ops (F := Ideal)) (StableHlo.launchContents m' c) (Proc.devRef .tc Cert.ReferenceIdeal.main_arg6) := by
  have hk := (Cert.KernelIdeal.Hand.KOps_asc).spared (r := Cert.KernelIdeal.main_arg6) rfl (by decide) (Cert.KernelIdeal.Hand.Wl (F := Ideal) m ρ c)
  have hr := (Cert.ReferenceIdeal.Hand.ops_asc (F := Ideal)).spared (r := Cert.ReferenceIdeal.main_arg6) rfl (by decide) (StableHlo.launchContents m' c)
  rw [hk, hr]
  exact ((hag c).2.2.2.2.2.2.1).symm

theorem c_main_arg7__main_arg7 : StableHlo.after Cert.KernelIdeal.Hand.KOps (Cert.KernelIdeal.Hand.Wl (F := Ideal) m ρ c) (Proc.devRef .tc Cert.KernelIdeal.main_arg7) = StableHlo.after (Cert.ReferenceIdeal.Hand.ops (F := Ideal)) (StableHlo.launchContents m' c) (Proc.devRef .tc Cert.ReferenceIdeal.main_arg7) := by
  have hk := (Cert.KernelIdeal.Hand.KOps_asc).spared (r := Cert.KernelIdeal.main_arg7) rfl (by decide) (Cert.KernelIdeal.Hand.Wl (F := Ideal) m ρ c)
  have hr := (Cert.ReferenceIdeal.Hand.ops_asc (F := Ideal)).spared (r := Cert.ReferenceIdeal.main_arg7) rfl (by decide) (StableHlo.launchContents m' c)
  rw [hk, hr]
  exact ((hag c).2.2.2.2.2.2.2.1).symm

theorem c_main_arg8__main_arg8 : StableHlo.after Cert.KernelIdeal.Hand.KOps (Cert.KernelIdeal.Hand.Wl (F := Ideal) m ρ c) (Proc.devRef .tc Cert.KernelIdeal.main_arg8) = StableHlo.after (Cert.ReferenceIdeal.Hand.ops (F := Ideal)) (StableHlo.launchContents m' c) (Proc.devRef .tc Cert.ReferenceIdeal.main_arg8) := by
  have hk := (Cert.KernelIdeal.Hand.KOps_asc).spared (r := Cert.KernelIdeal.main_arg8) rfl (by decide) (Cert.KernelIdeal.Hand.Wl (F := Ideal) m ρ c)
  have hr := (Cert.ReferenceIdeal.Hand.ops_asc (F := Ideal)).spared (r := Cert.ReferenceIdeal.main_arg8) rfl (by decide) (StableHlo.launchContents m' c)
  rw [hk, hr]
  exact ((hag c).2.2.2.2.2.2.2.2.1).symm

theorem c_main_arg9__main_arg9 : StableHlo.after Cert.KernelIdeal.Hand.KOps (Cert.KernelIdeal.Hand.Wl (F := Ideal) m ρ c) (Proc.devRef .tc Cert.KernelIdeal.main_arg9) = StableHlo.after (Cert.ReferenceIdeal.Hand.ops (F := Ideal)) (StableHlo.launchContents m' c) (Proc.devRef .tc Cert.ReferenceIdeal.main_arg9) := by
  have hk := (Cert.KernelIdeal.Hand.KOps_asc).spared (r := Cert.KernelIdeal.main_arg9) rfl (by decide) (Cert.KernelIdeal.Hand.Wl (F := Ideal) m ρ c)
  have hr := (Cert.ReferenceIdeal.Hand.ops_asc (F := Ideal)).spared (r := Cert.ReferenceIdeal.main_arg9) rfl (by decide) (StableHlo.launchContents m' c)
  rw [hk, hr]
  exact ((hag c).2.2.2.2.2.2.2.2.2.1).symm

theorem c_main_arg10__main_arg10 : StableHlo.after Cert.KernelIdeal.Hand.KOps (Cert.KernelIdeal.Hand.Wl (F := Ideal) m ρ c) (Proc.devRef .tc Cert.KernelIdeal.main_arg10) = StableHlo.after (Cert.ReferenceIdeal.Hand.ops (F := Ideal)) (StableHlo.launchContents m' c) (Proc.devRef .tc Cert.ReferenceIdeal.main_arg10) := by
  have hk := (Cert.KernelIdeal.Hand.KOps_asc).spared (r := Cert.KernelIdeal.main_arg10) rfl (by decide) (Cert.KernelIdeal.Hand.Wl (F := Ideal) m ρ c)
  have hr := (Cert.ReferenceIdeal.Hand.ops_asc (F := Ideal)).spared (r := Cert.ReferenceIdeal.main_arg10) rfl (by decide) (StableHlo.launchContents m' c)
  rw [hk, hr]
  exact ((hag c).2.2.2.2.2.2.2.2.2.2.1).symm

theorem c_main_arg11__main_arg11 : StableHlo.after Cert.KernelIdeal.Hand.KOps (Cert.KernelIdeal.Hand.Wl (F := Ideal) m ρ c) (Proc.devRef .tc Cert.KernelIdeal.main_arg11) = StableHlo.after (Cert.ReferenceIdeal.Hand.ops (F := Ideal)) (StableHlo.launchContents m' c) (Proc.devRef .tc Cert.ReferenceIdeal.main_arg11) := by
  have hk := (Cert.KernelIdeal.Hand.KOps_asc).spared (r := Cert.KernelIdeal.main_arg11) rfl (by decide) (Cert.KernelIdeal.Hand.Wl (F := Ideal) m ρ c)
  have hr := (Cert.ReferenceIdeal.Hand.ops_asc (F := Ideal)).spared (r := Cert.ReferenceIdeal.main_arg11) rfl (by decide) (StableHlo.launchContents m' c)
  rw [hk, hr]
  exact ((hag c).2.2.2.2.2.2.2.2.2.2.2).symm

end Cert.Value

end
-- ==== Proof.LibLastStep.lean ====
/-
  The last timestep, two ways. The input f32[6144, 1, 16, 16] holds three timesteps of 2048 nodes with 256 features each.
  Flattening it to [6144, 256] and taking rows 4096 … 6143 gives the same [2048, 256] array as viewing it as [3, 2048, 256],
  taking the slab [2:3] and dropping the unit axis: entry (r, f) of either is the input's element at row-major position
  (4096 + r)·256 + f.
-/
import Idealize.ShloMosaic.Lib.Pipeline.Value

noncomputable section

namespace Cert.Layout

open Idealize.ShloMosaic

abbrev SIn : Shape := ⟨4, ![6144, 1, 16, 16]⟩
abbrev SFlat : Shape := ⟨2, ![6144, 256]⟩
abbrev SSteps : Shape := ⟨3, ![3, 2048, 256]⟩
abbrev SSlab : Shape := ⟨3, ![1, 2048, 256]⟩
abbrev SLast : Shape := ⟨2, ![2048, 256]⟩

theorem lastStep_eq {α : Type} (A : SIn.Idx → α) (hF : SIn.ShapeCasts SFlat) (hsF : SFlat.Slices ![4096, 0] SLast)
    (hS : SIn.ShapeCasts SSteps) (hsS : SSteps.Slices ![2, 0, 0] SSlab) (hL : SSlab.ShapeCasts SLast) :
    extractStridedSlice SLast ![4096, 0] (shapeCast SFlat A hF) hsF
      = shapeCast SLast (extractStridedSlice SSlab ![2, 0, 0] (shapeCast SSteps A hS) hsS) hL := by
  funext j
  unfold extractStridedSlice shapeCast
  refine congrArg A (SIn.rowMajor.injective (Fin.ext ?_))
  rw [Shape.rowMajor_reshapeEquiv, Shape.rowMajor_reshapeEquiv, Shape.rowMajor_val_two, Shape.rowMajor_val_three]
  have he := Shape.rowMajor_reshapeEquiv (s := SSlab) (s' := SLast) hL j
  rw [Shape.rowMajor_val_three, Shape.rowMajor_val_two] at he
  have h0 : ((Shape.reshapeEquiv hL j) 0).val < 1 := (Shape.reshapeEquiv hL j 0).isLt
  have h1 : ((Shape.reshapeEquiv hL j) 1).val < 2048 := (Shape.reshapeEquiv hL j 1).isLt
  have h2 : ((Shape.reshapeEquiv hL j) 2).val < 256 := (Shape.reshapeEquiv hL j 2).isLt
  have hj1 : (j 1).val < 256 := (j 1).isLt
  have he' : ((Shape.reshapeEquiv hL j 0).val * 2048 + (Shape.reshapeEquiv hL j 1).val) * 256 + (Shape.reshapeEquiv hL j 2).val
      = (j 0).val * 256 + (j 1).val := he
  show (4096 + (j 0).val) * 256 + (0 + (j 1).val)
      = ((2 + (Shape.reshapeEquiv hL j 0).val) * 2048 + (0 + (Shape.reshapeEquiv hL j 1).val)) * 256 + (0 + (Shape.reshapeEquiv hL j 2).val)
  omega

end Cert.Layout
-- ==== Proof.Val.Seed.lean ====
/- The chain's first non-argument pair: the kernel program's last-timestep rows (its flattened input's rows 4096 … 6143)
   are the reference's last timestep (its input viewed as three timesteps, slab [2:3], the unit axis dropped). Each side's
   buffers are read through their operations' equations back to the input array, on which the two memories agree; the two
   readings of the input are one by the layout identity. -/
import proofs.«146970_j35948876268088_1_alg».proof.Proof.Val.Args
import proofs.«146970_j35948876268088_1_alg».proof.Proof.LibLastStep

set_option maxRecDepth 16384

noncomputable section

namespace Cert.Value

open Idealize.ShloMosaic Idealize.ShloMosaic.TcCoe Idealize.SL.Sem

variable {m : (ℓ : Loc Cert.KernelIdeal.nD Cert.KernelIdeal.τ Cert.KernelIdeal.sig) → Buf (Elt Ideal) ℓ} {ρ : Dev Cert.KernelIdeal.nD → PrngReg}
  {m' : (ℓ : Loc Cert.ReferenceIdeal.nD Cert.ReferenceIdeal.τ Cert.ReferenceIdeal.sig) → Buf (Elt Ideal) ℓ} {c : Dev Cert.KernelIdeal.nD} (hag : Agree m m') (hel : Els m' c)
include hag hel

theorem c_main_v1__main_v98 : StableHlo.after Cert.KernelIdeal.Hand.KOps (Cert.KernelIdeal.Hand.Wl (F := Ideal) m ρ c) (Proc.devRef .tc Cert.KernelIdeal.main_v1) = StableHlo.after (Cert.ReferenceIdeal.Hand.ops (F := Ideal)) (StableHlo.launchContents m' c) (Proc.devRef .tc Cert.ReferenceIdeal.main_v98) := by
  have k0 := StableHlo.Ascending.eq_reshape Cert.KernelIdeal.Hand.KOps_asc (Cert.KernelIdeal.Hand.Wl m ρ c) (Cert.KernelIdeal.Hand.mem_KOps_st0 (Cert.KernelIdeal.Hand.mem_st_0 (List.getElem_mem (l := Cert.KernelIdeal.GenP.hostOps0 (F := Ideal)) (n := 0) (by decide)))) rfl rfl (by decide) (x := Cert.KernelIdeal.main_arg0) (y := Cert.KernelIdeal.main_v0) (he := rfl) (hn := Cert.KernelIdeal.Gen.shapeCasts_S6144x1x16x16_S6144x256) (hx := ⟨by decide, rfl⟩) (hy := ⟨by decide, rfl⟩)
  have k1 := StableHlo.Ascending.eq_unary Cert.KernelIdeal.Hand.KOps_asc (Cert.KernelIdeal.Hand.Wl m ρ c) (Cert.KernelIdeal.Hand.mem_KOps_st0 (Cert.KernelIdeal.Hand.mem_st_0 (List.getElem_mem (l := Cert.KernelIdeal.GenP.hostOps0 (F := Ideal)) (n := 1) (by decide)))) rfl rfl (by decide) (x := Cert.KernelIdeal.main_v0) (y := Cert.KernelIdeal.main_v1) (f := open Cert.KernelIdeal Cert.KernelIdeal.Gen in (extractStridedSlice S2048x256 ![4096, 0] · slices_S6144x256_S2048x256_4096_0)) (hx := ⟨by decide, rfl⟩) (hy := ⟨by decide, rfl⟩)
  have r0 := StableHlo.Ascending.eq_reshape (Cert.ReferenceIdeal.Hand.ops_asc (F := Ideal)) (StableHlo.launchContents m' c) (Cert.ReferenceIdeal.Hand.mem_ops_part0 (List.getElem_mem (l := Cert.ReferenceIdeal.Hand.ops_part0 (F := Ideal)) (n := 0) (by decide))) rfl rfl (by decide) (x := Cert.ReferenceIdeal.main_arg0) (y := Cert.ReferenceIdeal.main_v0) (he := rfl) (hn := Cert.ReferenceIdeal.Gen.shapeCasts_S6144x1x16x16_S3x2048x256) (hx := ⟨by decide, rfl⟩) (hy := ⟨by decide, rfl⟩)
  have r97 := StableHlo.Ascending.eq_unary (Cert.ReferenceIdeal.Hand.ops_asc (F := Ideal)) (StableHlo.launchContents m' c) (Cert.ReferenceIdeal.Hand.mem_ops_part1 (List.getElem_mem (l := Cert.ReferenceIdeal.Hand.ops_part1 (F := Ideal)) (n := 57) (by decide))) rfl rfl (by decide) (x := Cert.ReferenceIdeal.main_v0) (y := Cert.ReferenceIdeal.main_v97) (f := open Cert.ReferenceIdeal Cert.ReferenceIdeal.Gen in (extractStridedSlice S1x2048x256 ![2, 0, 0] · slices_S3x2048x256_S1x2048x256_2_0_0)) (hx := ⟨by decide, rfl⟩) (hy := ⟨by decide, rfl⟩)
  have r98 := StableHlo.Ascending.eq_reshape (Cert.ReferenceIdeal.Hand.ops_asc (F := Ideal)) (StableHlo.launchContents m' c) (Cert.ReferenceIdeal.Hand.mem_ops_part1 (List.getElem_mem (l := Cert.ReferenceIdeal.Hand.ops_part1 (F := Ideal)) (n := 58) (by decide))) rfl rfl (by decide) (x := Cert.ReferenceIdeal.main_v97) (y := Cert.ReferenceIdeal.main_v98) (he := rfl) (hn := Cert.ReferenceIdeal.Gen.shapeCasts_S1x2048x256_S2048x256) (hx := ⟨by decide, rfl⟩) (hy := ⟨by decide, rfl⟩)
  rw [k1, k0, r98, r97, r0, ← c_main_arg0__main_arg0 hag hel]
  exact Cert.Layout.lastStep_eq (StableHlo.after Cert.KernelIdeal.Hand.KOps (Cert.KernelIdeal.Hand.Wl (F := Ideal) m ρ c) (Proc.devRef .tc Cert.KernelIdeal.main_arg0)) _ _ _ _ _

end Cert.Value

end
-- ==== Proof.KI.Dots.lean ====
/-
  The regions' whole-array products against the host's dot_general. Each region leaves the array whose entry at (r, s)
  is the sum over the contracted coordinate k of left(r, k) · right(k, s). The reference computes the same arrays by
  stablehlo.dot_general with dimension numbers "contract the left operand's axis 1 with the right operand's axis 0, no
  batch axis"; at the ideal values that operation, read at an index, is the same sum (no rounding, no order of
  summation left in it). So the two agree as functions of their two argument arrays.
-/
import proofs.«146970_j35948876268088_1_alg».proof.Proof.KI.Value0
import proofs.«146970_j35948876268088_1_alg».proof.Proof.KI.Value1
import proofs.«146970_j35948876268088_1_alg».proof.Proof.KI.Value2
import proofs.«146970_j35948876268088_1_alg».proof.Proof.KI.Value3
import proofs.«146970_j35948876268088_1_alg».proof.Proof.KI.Value4
import proofs.«146970_j35948876268088_1_alg».proof.Proof.KI.Value5
import proofs.«146970_j35948876268088_1_alg».proof.Proof.KI.Value6
import proofs.«146970_j35948876268088_1_alg».proof.Proof.KI.Value7
import proofs.«146970_j35948876268088_1_alg».proof.Proof.KI.Value8
import proofs.«146970_j35948876268088_1_alg».proof.ReferenceIdeal.P01
import Idealize.ShloMosaic.Lib.ValueIdx
import Idealize.ShloMosaic.PureOps.Ideal.Laws

set_option maxRecDepth 16384

noncomputable section

namespace Cert.KernelIdeal.Hand

open Cert.KernelIdeal
open Idealize.ShloMosaic Idealize.ShloMosaic.ValueIdx
open scoped BigOperators

/-! ## A rows-by-columns dot_general at an index, and as a whole array -/

/-- The host's dot_general whose dimension numbers contract the left operand's axis 1 with the right operand's axis 0
    (no batch axis) is, at (a, b), the sum over the contracted coordinate of the products of the entries. At the ideal
    values. -/
theorem dotGeneral_rc_apply {m k n : Nat} (w : DotDims.WF ⟨2, ![m, k]⟩ ⟨2, ![k, n]⟩ ⟨2, ![m, n]⟩ [1] [0] [0] [1] [] [])
    (prec : Option ContractPrecision) (A : FVec Ideal ⟨2, ![m, k]⟩ .f32) (B : FVec Ideal ⟨2, ![k, n]⟩ .f32)
    (a : Fin m) (b : Fin n) :
    Host.dotGeneral (⟨[1], [0], [0], [1], [], [], w⟩ : DotDims _ _ _) prec A B (ix2 a b)
      = ∑ c : Fin k, A (ix2 a c) * B (ix2 c b) := by
  show FloatOps.dotGeneral _ prec _ A B (ix2 a b) = _
  rw [Ideal.dotGeneral_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- As whole arrays: the array of those sums is that dot_general of the two arrays. -/
theorem sums_eq_dotGeneral {m k n : Nat} (w : DotDims.WF ⟨2, ![m, k]⟩ ⟨2, ![k, n]⟩ ⟨2, ![m, n]⟩ [1] [0] [0] [1] [] [])
    (x : FVec Ideal ⟨2, ![m, k]⟩ .f32) (y : FVec Ideal ⟨2, ![k, n]⟩ .f32) :
    (fun i : (⟨2, ![m, n]⟩ : Shape).Idx => ∑ c : Fin k, x (ix2 (i 0) c) * y (ix2 c (i 1)))
      = Host.dotGeneral (F := Ideal) (⟨[1], [0], [0], [1], [], [], w⟩ : DotDims _ _ _) none x y := by
  funext i
  obtain ⟨a, b, rfl⟩ : ∃ (a : Fin m) (b : Fin n), i = ix2 a b := ⟨i 0, i 1, eq_ix2 i⟩
  exact (dotGeneral_rc_apply w none x y a b).symm

/-! ## Each region's product is the reference's dot_general -/

variable [Cert.ReferenceIdeal.Facts₀]

/-- Region 0's product is the reference's dot_general of the same two arrays. -/
theorem dot_eq0 (x : S2048x256.Idx → EReal) (y : S256x2048.Idx → EReal) :
    prod0 x y = Host.dotGeneral (F := Ideal) (φ₁ := .f32) (φ₂ := .f32) Cert.ReferenceIdeal.dot_S2048x256_S256x2048_S2048x2048_1_0_0_1_n_n none x y :=
  sums_eq_dotGeneral _ x y

/-- Region 1's product is the reference's dot_general of the same two arrays. -/
theorem dot_eq1 (x : S2048x2048.Idx → EReal) (y : S2048x2048.Idx → EReal) :
    prod1 x y = Host.dotGeneral (F := Ideal) (φ₁ := .f32) (φ₂ := .f32) Cert.ReferenceIdeal.dot_S2048x2048_S2048x2048_S2048x2048_1_0_0_1_n_n none x y :=
  sums_eq_dotGeneral _ x y

/-- Region 2's product is the reference's dot_general of the same two arrays. -/
theorem dot_eq2 (x : S2048x2048.Idx → EReal) (y : S2048x256.Idx → EReal) :
    prod2 x y = Host.dotGeneral (F := Ideal) (φ₁ := .f32) (φ₂ := .f32) Cert.ReferenceIdeal.dot_S2048x2048_S2048x256_S2048x256_1_0_0_1_n_n none x y :=
  sums_eq_dotGeneral _ x y

/-- Region 3's product is the reference's dot_general of the same two arrays. -/
theorem dot_eq3 (x : S2048x256.Idx → EReal) (y : S256x256.Idx → EReal) :
    prod3 x y = Host.dotGeneral (F := Ideal) (φ₁ := .f32) (φ₂ := .f32) Cert.ReferenceIdeal.dot_S2048x256_S256x256_S2048x256_1_0_0_1_n_n none x y :=
  sums_eq_dotGeneral _ x y

/-- Region 4's product is the reference's dot_general of the same two arrays. -/
theorem dot_eq4 (x : S2048x2048.Idx → EReal) (y : S2048x256.Idx → EReal) :
    prod4 x y = Host.dotGeneral (F := Ideal) (φ₁ := .f32) (φ₂ := .f32) Cert.ReferenceIdeal.dot_S2048x2048_S2048x256_S2048x256_1_0_0_1_n_n none x y :=
  sums_eq_dotGeneral _ x y

/-- Region 5's product is the reference's dot_general of the same two arrays. -/
theorem dot_eq5 (x : S2048x256.Idx → EReal) (y : S256x2048.Idx → EReal) :
    prod5 x y = Host.dotGeneral (F := Ideal) (φ₁ := .f32) (φ₂ := .f32) Cert.ReferenceIdeal.dot_S2048x256_S256x2048_S2048x2048_1_0_0_1_n_n none x y :=
  sums_eq_dotGeneral _ x y

/-- Region 6's product is the reference's dot_general of the same two arrays. -/
theorem dot_eq6 (x : S2048x2048.Idx → EReal) (y : S2048x2048.Idx → EReal) :
    prod6 x y = Host.dotGeneral (F := Ideal) (φ₁ := .f32) (φ₂ := .f32) Cert.ReferenceIdeal.dot_S2048x2048_S2048x2048_S2048x2048_1_0_0_1_n_n none x y :=
  sums_eq_dotGeneral _ x y

/-- Region 7's product is the reference's dot_general of the same two arrays. -/
theorem dot_eq7 (x : S2048x256.Idx → EReal) (y : S256x2048.Idx → EReal) :
    prod7 x y = Host.dotGeneral (F := Ideal) (φ₁ := .f32) (φ₂ := .f32) Cert.ReferenceIdeal.dot_S2048x256_S256x2048_S2048x2048_1_0_0_1_n_n none x y :=
  sums_eq_dotGeneral _ x y

/-- Region 8's product is the reference's dot_general of the same two arrays. -/
theorem dot_eq8 (x : S2048x2048.Idx → EReal) (y : S2048x2048.Idx → EReal) :
    prod8 x y = Host.dotGeneral (F := Ideal) (φ₁ := .f32) (φ₂ := .f32) Cert.ReferenceIdeal.dot_S2048x2048_S2048x2048_S2048x2048_1_0_0_1_n_n none x y :=
  sums_eq_dotGeneral _ x y

end Cert.KernelIdeal.Hand

end
-- ==== Proof.Val.C000.lean ====
/- Steps C000 of the value claim's chain: for each listed pair, the kernel program's buffer and its reference twin hold equal contents at the two programs' final
   valuations — the two operations are the same function (read off the two operation lists) of operands already paired. A table; written by: bun scratch/corr.js 60 -/
import proofs.«146970_j35948876268088_1_alg».proof.Proof.Val.Seed
import proofs.«146970_j35948876268088_1_alg».proof.Proof.KI.Dots
import Mathlib.Tactic.FinCases

set_option maxRecDepth 16384

noncomputable section

namespace Cert.Value

open Idealize.ShloMosaic Idealize.ShloMosaic.TcCoe Idealize.SL.Sem

variable {m : (ℓ : Loc Cert.KernelIdeal.nD Cert.KernelIdeal.τ Cert.KernelIdeal.sig) → Buf (Elt Ideal) ℓ} {ρ : Dev Cert.KernelIdeal.nD → PrngReg}
  {m' : (ℓ : Loc Cert.ReferenceIdeal.nD Cert.ReferenceIdeal.τ Cert.ReferenceIdeal.sig) → Buf (Elt Ideal) ℓ} {c : Dev Cert.KernelIdeal.nD} (hag : Agree m m') (hel : Els m' c)
include hag hel

theorem c_main_v2__main_v99 : StableHlo.after Cert.KernelIdeal.Hand.KOps (Cert.KernelIdeal.Hand.Wl (F := Ideal) m ρ c) (Proc.devRef .tc Cert.KernelIdeal.main_v2) = StableHlo.after (Cert.ReferenceIdeal.Hand.ops (F := Ideal)) (StableHlo.launchContents m' c) (Proc.devRef .tc Cert.ReferenceIdeal.main_v99) := by
  have hk := StableHlo.Ascending.eq_binary Cert.KernelIdeal.Hand.KOps_asc (Cert.KernelIdeal.Hand.Wl m ρ c) (Cert.KernelIdeal.Hand.mem_KOps_st0 (Cert.KernelIdeal.Hand.mem_st_0 (List.getElem_mem (l := Cert.KernelIdeal.GenP.hostOps0 (F := Ideal)) (n := 2) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part1 (List.getElem_mem (l := Cert.ReferenceIdeal.Hand.ops_part1 (F := Ideal)) (n := 59) (by decide))) rfl rfl rfl (by decide) (by decide) (ha := ⟨by decide, rfl⟩) (hb := ⟨by decide, rfl⟩) (hy := ⟨by decide, rfl⟩)
  rw [hk, hr, ← c_main_v1__main_v98 hag hel]

theorem c_main_cst__main_cst_19 : StableHlo.after Cert.KernelIdeal.Hand.KOps (Cert.KernelIdeal.Hand.Wl (F := Ideal) m ρ c) (Proc.devRef .tc Cert.KernelIdeal.main_cst) = StableHlo.after (Cert.ReferenceIdeal.Hand.ops (F := Ideal)) (StableHlo.launchContents m' c) (Proc.devRef .tc Cert.ReferenceIdeal.main_cst_19) := by
  have hk := StableHlo.Ascending.eq_nullary Cert.KernelIdeal.Hand.KOps_asc (Cert.KernelIdeal.Hand.Wl m ρ c) (Cert.KernelIdeal.Hand.mem_KOps_st0 (Cert.KernelIdeal.Hand.mem_st_0 (List.getElem_mem (l := Cert.KernelIdeal.GenP.hostOps0 (F := Ideal)) (n := 3) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part2 (List.getElem_mem (l := Cert.ReferenceIdeal.Hand.ops_part2 (F := Ideal)) (n := 0) (by decide))) rfl (hy := ⟨by decide, rfl⟩)
  rw [hk, hr]

theorem c_main_v3__main_v100 : StableHlo.after Cert.KernelIdeal.Hand.KOps (Cert.KernelIdeal.Hand.Wl (F := Ideal) m ρ c) (Proc.devRef .tc Cert.KernelIdeal.main_v3) = StableHlo.after (Cert.ReferenceIdeal.Hand.ops (F := Ideal)) (StableHlo.launchContents m' c) (Proc.devRef .tc Cert.ReferenceIdeal.main_v100) := by
  have hk := StableHlo.Ascending.eq_binary Cert.KernelIdeal.Hand.KOps_asc (Cert.KernelIdeal.Hand.Wl m ρ c) (Cert.KernelIdeal.Hand.mem_KOps_st0 (Cert.KernelIdeal.Hand.mem_st_0 (List.getElem_mem (l := Cert.KernelIdeal.GenP.hostOps0 (F := Ideal)) (n := 4) (by decide)))) rfl rfl rfl (by decide) (by decide) (a := Cert.KernelIdeal.main_v2) (b := Cert.KernelIdeal.main_cst) (y := Cert.KernelIdeal.main_v3) (f := open Cert.KernelIdeal Cert.KernelIdeal.Gen in (fun x v => Host.reduceAdd (F := Ideal) x v reducesTo_S2048x256_S2048_d1 h_S_)) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part2 (List.getElem_mem (l := Cert.ReferenceIdeal.Hand.ops_part2 (F := Ideal)) (n := 1) (by decide))) rfl rfl rfl (by decide) (by decide) (a := Cert.ReferenceIdeal.main_v99) (b := Cert.ReferenceIdeal.main_cst_19) (y := Cert.ReferenceIdeal.main_v100) (f := open Cert.ReferenceIdeal Cert.ReferenceIdeal.Gen in (fun x v => Host.reduceAdd (F := Ideal) x v reducesTo_S2048x256_S2048_d1 h_S_)) (ha := ⟨by decide, rfl⟩) (hb := ⟨by decide, rfl⟩) (hy := ⟨by decide, rfl⟩)
  rw [hk, hr, ← c_main_v2__main_v99 hag hel, ← c_main_cst__main_cst_19 hag hel]

theorem c_main_v4__main_v106 : StableHlo.after Cert.KernelIdeal.Hand.KOps (Cert.KernelIdeal.Hand.Wl (F := Ideal) m ρ c) (Proc.devRef .tc Cert.KernelIdeal.main_v4) = StableHlo.after (Cert.ReferenceIdeal.Hand.ops (F := Ideal)) (StableHlo.launchContents m' c) (Proc.devRef .tc Cert.ReferenceIdeal.main_v106) := by
  have hk := StableHlo.Ascending.eq_unary Cert.KernelIdeal.Hand.KOps_asc (Cert.KernelIdeal.Hand.Wl m ρ c) (Cert.KernelIdeal.Hand.mem_KOps_st0 (Cert.KernelIdeal.Hand.mem_st_0 (List.getElem_mem (l := Cert.KernelIdeal.GenP.hostOps0 (F := Ideal)) (n := 5) (by decide)))) rfl rfl (by decide) (x := Cert.KernelIdeal.main_v1) (y := Cert.KernelIdeal.main_v4) (f := open Cert.KernelIdeal Cert.KernelIdeal.Gen in (transpose S256x2048 [1, 0] · transposes_S2048x256_S256x2048_1_0)) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part2 (List.getElem_mem (l := Cert.ReferenceIdeal.Hand.ops_part2 (F := Ideal)) (n := 7) (by decide))) rfl rfl (by decide) (x := Cert.ReferenceIdeal.main_v98) (y := Cert.ReferenceIdeal.main_v106) (f := open Cert.ReferenceIdeal Cert.ReferenceIdeal.Gen in (transpose S256x2048 [1, 0] · transposes_S2048x256_S256x2048_1_0)) (hx := ⟨by decide, rfl⟩) (hy := ⟨by decide, rfl⟩)
  rw [hk, hr, ← c_main_v1__main_v98 hag hel]

theorem c_main_v5__main_v107 : StableHlo.after Cert.KernelIdeal.Hand.KOps (Cert.KernelIdeal.Hand.Wl (F := Ideal) m ρ c) (Proc.devRef .tc Cert.KernelIdeal.main_v5) = StableHlo.after (Cert.ReferenceIdeal.Hand.ops (F := Ideal)) (StableHlo.launchContents m' c) (Proc.devRef .tc Cert.ReferenceIdeal.main_v107) := by
  have hk := StableHlo.Ascending.eq_binary Cert.KernelIdeal.Hand.KOps_asc (Cert.KernelIdeal.Hand.Wl m ρ c) Cert.KernelIdeal.Hand.mem_KOps_reg0 rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part2 (List.getElem_mem (l := Cert.ReferenceIdeal.Hand.ops_part2 (F := Ideal)) (n := 8) (by decide))) rfl rfl rfl (by decide) (by decide) (ha := ⟨by decide, rfl⟩) (hb := ⟨by decide, rfl⟩) (hy := ⟨by decide, rfl⟩)
  rw [hk, hr, ← c_main_v1__main_v98 hag hel, ← c_main_v4__main_v106 hag hel]
  exact Cert.KernelIdeal.Hand.dot_eq0 _ _

theorem c_main_v6__main_v101 : StableHlo.after Cert.KernelIdeal.Hand.KOps (Cert.KernelIdeal.Hand.Wl (F := Ideal) m ρ c) (Proc.devRef .tc Cert.KernelIdeal.main_v6) = StableHlo.after (Cert.ReferenceIdeal.Hand.ops (F := Ideal)) (StableHlo.launchContents m' c) (Proc.devRef .tc Cert.ReferenceIdeal.main_v101) := by
  have hk := StableHlo.Ascending.eq_unary Cert.KernelIdeal.Hand.KOps_asc (Cert.KernelIdeal.Hand.Wl m ρ c) (Cert.KernelIdeal.Hand.mem_KOps_st1 (Cert.KernelIdeal.Hand.mem_st_1 (List.getElem_mem (l := Cert.KernelIdeal.GenP.hostOps1 (F := Ideal)) (n := 0) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part2 (List.getElem_mem (l := Cert.ReferenceIdeal.Hand.ops_part2 (F := Ideal)) (n := 2) (by decide))) rfl rfl (by decide) (hx := ⟨by decide, rfl⟩) (hy := ⟨by decide, rfl⟩)
  rw [hk, hr, ← c_main_v3__main_v100 hag hel]

theorem c_main_v7__main_v102 : StableHlo.after Cert.KernelIdeal.Hand.KOps (Cert.KernelIdeal.Hand.Wl (F := Ideal) m ρ c) (Proc.devRef .tc Cert.KernelIdeal.main_v7) = StableHlo.after (Cert.ReferenceIdeal.Hand.ops (F := Ideal)) (StableHlo.launchContents m' c) (Proc.devRef .tc Cert.ReferenceIdeal.main_v102) := by
  have hk := StableHlo.Ascending.eq_unary Cert.KernelIdeal.Hand.KOps_asc (Cert.KernelIdeal.Hand.Wl m ρ c) (Cert.KernelIdeal.Hand.mem_KOps_st1 (Cert.KernelIdeal.Hand.mem_st_1 (List.getElem_mem (l := Cert.KernelIdeal.GenP.hostOps1 (F := Ideal)) (n := 1) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part2 (List.getElem_mem (l := Cert.ReferenceIdeal.Hand.ops_part2 (F := Ideal)) (n := 3) (by decide))) rfl rfl (by decide) (hx := ⟨by decide, rfl⟩) (hy := ⟨by decide, rfl⟩)
  rw [hk, hr, ← c_main_v3__main_v100 hag hel]

theorem c_main_v8__main_v103 : StableHlo.after Cert.KernelIdeal.Hand.KOps (Cert.KernelIdeal.Hand.Wl (F := Ideal) m ρ c) (Proc.devRef .tc Cert.KernelIdeal.main_v8) = StableHlo.after (Cert.ReferenceIdeal.Hand.ops (F := Ideal)) (StableHlo.launchContents m' c) (Proc.devRef .tc Cert.ReferenceIdeal.main_v103) := by
  have hk := StableHlo.Ascending.eq_unary Cert.KernelIdeal.Hand.KOps_asc (Cert.KernelIdeal.Hand.Wl m ρ c) (Cert.KernelIdeal.Hand.mem_KOps_st1 (Cert.KernelIdeal.Hand.mem_st_1 (List.getElem_mem (l := Cert.KernelIdeal.GenP.hostOps1 (F := Ideal)) (n := 2) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part2 (List.getElem_mem (l := Cert.ReferenceIdeal.Hand.ops_part2 (F := Ideal)) (n := 4) (by decide))) rfl rfl (by decide) (hx := ⟨by decide, rfl⟩) (hy := ⟨by decide, rfl⟩)
  rw [hk, hr, ← c_main_v6__main_v101 hag hel]

theorem c_main_v9__main_v104 : StableHlo.after Cert.KernelIdeal.Hand.KOps (Cert.KernelIdeal.Hand.Wl (F := Ideal) m ρ c) (Proc.devRef .tc Cert.KernelIdeal.main_v9) = StableHlo.after (Cert.ReferenceIdeal.Hand.ops (F := Ideal)) (StableHlo.launchContents m' c) (Proc.devRef .tc Cert.ReferenceIdeal.main_v104) := by
  have hk := StableHlo.Ascending.eq_unary Cert.KernelIdeal.Hand.KOps_asc (Cert.KernelIdeal.Hand.Wl m ρ c) (Cert.KernelIdeal.Hand.mem_KOps_st1 (Cert.KernelIdeal.Hand.mem_st_1 (List.getElem_mem (l := Cert.KernelIdeal.GenP.hostOps1 (F := Ideal)) (n := 3) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part2 (List.getElem_mem (l := Cert.ReferenceIdeal.Hand.ops_part2 (F := Ideal)) (n := 5) (by decide))) rfl rfl (by decide) (hx := ⟨by decide, rfl⟩) (hy := ⟨by decide, rfl⟩)
  rw [hk, hr, ← c_main_v7__main_v102 hag hel]

theorem c_main_v10__main_v105 : StableHlo.after Cert.KernelIdeal.Hand.KOps (Cert.KernelIdeal.Hand.Wl (F := Ideal) m ρ c) (Proc.devRef .tc Cert.KernelIdeal.main_v10) = StableHlo.after (Cert.ReferenceIdeal.Hand.ops (F := Ideal)) (StableHlo.launchContents m' c) (Proc.devRef .tc Cert.ReferenceIdeal.main_v105) := by
  have hk := StableHlo.Ascending.eq_binary Cert.KernelIdeal.Hand.KOps_asc (Cert.KernelIdeal.Hand.Wl m ρ c) (Cert.KernelIdeal.Hand.mem_KOps_st1 (Cert.KernelIdeal.Hand.mem_st_1 (List.getElem_mem (l := Cert.KernelIdeal.GenP.hostOps1 (F := Ideal)) (n := 4) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part2 (List.getElem_mem (l := Cert.ReferenceIdeal.Hand.ops_part2 (F := Ideal)) (n := 6) (by decide))) rfl rfl rfl (by decide) (by decide) (ha := ⟨by decide, rfl⟩) (hb := ⟨by decide, rfl⟩) (hy := ⟨by decide, rfl⟩)
  rw [hk, hr, ← c_main_v8__main_v103 hag hel, ← c_main_v9__main_v104 hag hel]

theorem c_main_cst_0__main_cst_20 : StableHlo.after Cert.KernelIdeal.Hand.KOps (Cert.KernelIdeal.Hand.Wl (F := Ideal) m ρ c) (Proc.devRef .tc Cert.KernelIdeal.main_cst_0) = StableHlo.after (Cert.ReferenceIdeal.Hand.ops (F := Ideal)) (StableHlo.launchContents m' c) (Proc.devRef .tc Cert.ReferenceIdeal.main_cst_20) := by
  have hk := StableHlo.Ascending.eq_nullary Cert.KernelIdeal.Hand.KOps_asc (Cert.KernelIdeal.Hand.Wl m ρ c) (Cert.KernelIdeal.Hand.mem_KOps_st1 (Cert.KernelIdeal.Hand.mem_st_1 (List.getElem_mem (l := Cert.KernelIdeal.GenP.hostOps1 (F := Ideal)) (n := 5) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part2 (List.getElem_mem (l := Cert.ReferenceIdeal.Hand.ops_part2 (F := Ideal)) (n := 9) (by decide))) rfl (hy := ⟨by decide, rfl⟩)
  rw [hk, hr]

theorem c_main_v11__main_v108 : StableHlo.after Cert.KernelIdeal.Hand.KOps (Cert.KernelIdeal.Hand.Wl (F := Ideal) m ρ c) (Proc.devRef .tc Cert.KernelIdeal.main_v11) = StableHlo.after (Cert.ReferenceIdeal.Hand.ops (F := Ideal)) (StableHlo.launchContents m' c) (Proc.devRef .tc Cert.ReferenceIdeal.main_v108) := by
  have hk := StableHlo.Ascending.eq_unary Cert.KernelIdeal.Hand.KOps_asc (Cert.KernelIdeal.Hand.Wl m ρ c) (Cert.KernelIdeal.Hand.mem_KOps_st1 (Cert.KernelIdeal.Hand.mem_st_1 (List.getElem_mem (l := Cert.KernelIdeal.GenP.hostOps1 (F := Ideal)) (n := 6) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part2 (List.getElem_mem (l := Cert.ReferenceIdeal.Hand.ops_part2 (F := Ideal)) (n := 10) (by decide))) rfl rfl (by decide) (hx := ⟨by decide, rfl⟩) (hy := ⟨by decide, rfl⟩)
  rw [hk, hr, ← c_main_cst_0__main_cst_20 hag hel]

theorem c_main_v12__main_v109 : StableHlo.after Cert.KernelIdeal.Hand.KOps (Cert.KernelIdeal.Hand.Wl (F := Ideal) m ρ c) (Proc.devRef .tc Cert.KernelIdeal.main_v12) = StableHlo.after (Cert.ReferenceIdeal.Hand.ops (F := Ideal)) (StableHlo.launchContents m' c) (Proc.devRef .tc Cert.ReferenceIdeal.main_v109) := by
  have hk := StableHlo.Ascending.eq_binary Cert.KernelIdeal.Hand.KOps_asc (Cert.KernelIdeal.Hand.Wl m ρ c) (Cert.KernelIdeal.Hand.mem_KOps_st1 (Cert.KernelIdeal.Hand.mem_st_1 (List.getElem_mem (l := Cert.KernelIdeal.GenP.hostOps1 (F := Ideal)) (n := 7) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part2 (List.getElem_mem (l := Cert.ReferenceIdeal.Hand.ops_part2 (F := Ideal)) (n := 11) (by decide))) rfl rfl rfl (by decide) (by decide) (ha := ⟨by decide, rfl⟩) (hb := ⟨by decide, rfl⟩) (hy := ⟨by decide, rfl⟩)
  rw [hk, hr, ← c_main_v11__main_v108 hag hel, ← c_main_v5__main_v107 hag hel]

theorem c_main_v13__main_v110 : StableHlo.after Cert.KernelIdeal.Hand.KOps (Cert.KernelIdeal.Hand.Wl (F := Ideal) m ρ c) (Proc.devRef .tc Cert.KernelIdeal.main_v13) = StableHlo.after (Cert.ReferenceIdeal.Hand.ops (F := Ideal)) (StableHlo.launchContents m' c) (Proc.devRef .tc Cert.ReferenceIdeal.main_v110) := by
  have hk := StableHlo.Ascending.eq_binary Cert.KernelIdeal.Hand.KOps_asc (Cert.KernelIdeal.Hand.Wl m ρ c) (Cert.KernelIdeal.Hand.mem_KOps_st1 (Cert.KernelIdeal.Hand.mem_st_1 (List.getElem_mem (l := Cert.KernelIdeal.GenP.hostOps1 (F := Ideal)) (n := 8) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part2 (List.getElem_mem (l := Cert.ReferenceIdeal.Hand.ops_part2 (F := Ideal)) (n := 12) (by decide))) rfl rfl rfl (by decide) (by decide) (ha := ⟨by decide, rfl⟩) (hb := ⟨by decide, rfl⟩) (hy := ⟨by decide, rfl⟩)
  rw [hk, hr, ← c_main_v10__main_v105 hag hel, ← c_main_v12__main_v109 hag hel]

theorem c_main_v14__main_v111 : StableHlo.after Cert.KernelIdeal.Hand.KOps (Cert.KernelIdeal.Hand.Wl (F := Ideal) m ρ c) (Proc.devRef .tc Cert.KernelIdeal.main_v14) = StableHlo.after (Cert.ReferenceIdeal.Hand.ops (F := Ideal)) (StableHlo.launchContents m' c) (Proc.devRef .tc Cert.ReferenceIdeal.main_v111) := by
  have hk := StableHlo.Ascending.eq_unary Cert.KernelIdeal.Hand.KOps_asc (Cert.KernelIdeal.Hand.Wl m ρ c) (Cert.KernelIdeal.Hand.mem_KOps_st1 (Cert.KernelIdeal.Hand.mem_st_1 (List.getElem_mem (l := Cert.KernelIdeal.GenP.hostOps1 (F := Ideal)) (n := 9) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part2 (List.getElem_mem (l := Cert.ReferenceIdeal.Hand.ops_part2 (F := Ideal)) (n := 13) (by decide))) rfl rfl (by decide) (hx := ⟨by decide, rfl⟩) (hy := ⟨by decide, rfl⟩)
  rw [hk, hr, ← c_main_v13__main_v110 hag hel]

theorem c_main_cst_1__main_cst_21 : StableHlo.after Cert.KernelIdeal.Hand.KOps (Cert.KernelIdeal.Hand.Wl (F := Ideal) m ρ c) (Proc.devRef .tc Cert.KernelIdeal.main_cst_1) = StableHlo.after (Cert.ReferenceIdeal.Hand.ops (F := Ideal)) (StableHlo.launchContents m' c) (Proc.devRef .tc Cert.ReferenceIdeal.main_cst_21) := by
  have hk := StableHlo.Ascending.eq_nullary Cert.KernelIdeal.Hand.KOps_asc (Cert.KernelIdeal.Hand.Wl m ρ c) (Cert.KernelIdeal.Hand.mem_KOps_st1 (Cert.KernelIdeal.Hand.mem_st_1 (List.getElem_mem (l := Cert.KernelIdeal.GenP.hostOps1 (F := Ideal)) (n := 10) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part2 (List.getElem_mem (l := Cert.ReferenceIdeal.Hand.ops_part2 (F := Ideal)) (n := 14) (by decide))) rfl (hy := ⟨by decide, rfl⟩)
  rw [hk, hr]

theorem c_main_v15__main_v112 : StableHlo.after Cert.KernelIdeal.Hand.KOps (Cert.KernelIdeal.Hand.Wl (F := Ideal) m ρ c) (Proc.devRef .tc Cert.KernelIdeal.main_v15) = StableHlo.after (Cert.ReferenceIdeal.Hand.ops (F := Ideal)) (StableHlo.launchContents m' c) (Proc.devRef .tc Cert.ReferenceIdeal.main_v112) := by
  have hk := StableHlo.Ascending.eq_binary Cert.KernelIdeal.Hand.KOps_asc (Cert.KernelIdeal.Hand.Wl m ρ c) (Cert.KernelIdeal.Hand.mem_KOps_st1 (Cert.KernelIdeal.Hand.mem_st_1 (List.getElem_mem (l := Cert.KernelIdeal.GenP.hostOps1 (F := Ideal)) (n := 11) (by decide)))) rfl rfl rfl (by decide) (by decide) (a := Cert.KernelIdeal.main_v14) (b := Cert.KernelIdeal.main_cst_1) (y := Cert.KernelIdeal.main_v15) (f := open Cert.KernelIdeal Cert.KernelIdeal.Gen in (fun x v => Host.reduceAdd (F := Ideal) x v reducesTo_S2048x2048_S_d0_1 h_S_)) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part2 (List.getElem_mem (l := Cert.ReferenceIdeal.Hand.ops_part2 (F := Ideal)) (n := 15) (by decide))) rfl rfl rfl (by decide) (by decide) (a := Cert.ReferenceIdeal.main_v111) (b := Cert.ReferenceIdeal.main_cst_21) (y := Cert.ReferenceIdeal.main_v112) (f := open Cert.ReferenceIdeal Cert.ReferenceIdeal.Gen in (fun x v => Host.reduceAdd (F := Ideal) x v reducesTo_S2048x2048_S_d0_1 h_S_)) (ha := ⟨by decide, rfl⟩) (hb := ⟨by decide, rfl⟩) (hy := ⟨by decide, rfl⟩)
  rw [hk, hr, ← c_main_v14__main_v111 hag hel, ← c_main_cst_1__main_cst_21 hag hel]

theorem c_main_cst_2__main_cst_22 : StableHlo.after Cert.KernelIdeal.Hand.KOps (Cert.KernelIdeal.Hand.Wl (F := Ideal) m ρ c) (Proc.devRef .tc Cert.KernelIdeal.main_cst_2) = StableHlo.after (Cert.ReferenceIdeal.Hand.ops (F := Ideal)) (StableHlo.launchContents m' c) (Proc.devRef .tc Cert.ReferenceIdeal.main_cst_22) := by
  have hk := StableHlo.Ascending.eq_nullary Cert.KernelIdeal.Hand.KOps_asc (Cert.KernelIdeal.Hand.Wl m ρ c) (Cert.KernelIdeal.Hand.mem_KOps_st1 (Cert.KernelIdeal.Hand.mem_st_1 (List.getElem_mem (l := Cert.KernelIdeal.GenP.hostOps1 (F := Ideal)) (n := 12) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part2 (List.getElem_mem (l := Cert.ReferenceIdeal.Hand.ops_part2 (F := Ideal)) (n := 16) (by decide))) rfl (hy := ⟨by decide, rfl⟩)
  rw [hk, hr]

theorem c_main_v16__main_v113 : StableHlo.after Cert.KernelIdeal.Hand.KOps (Cert.KernelIdeal.Hand.Wl (F := Ideal) m ρ c) (Proc.devRef .tc Cert.KernelIdeal.main_v16) = StableHlo.after (Cert.ReferenceIdeal.Hand.ops (F := Ideal)) (StableHlo.launchContents m' c) (Proc.devRef .tc Cert.ReferenceIdeal.main_v113) := by
  have hk := StableHlo.Ascending.eq_binary Cert.KernelIdeal.Hand.KOps_asc (Cert.KernelIdeal.Hand.Wl m ρ c) (Cert.KernelIdeal.Hand.mem_KOps_st1 (Cert.KernelIdeal.Hand.mem_st_1 (List.getElem_mem (l := Cert.KernelIdeal.GenP.hostOps1 (F := Ideal)) (n := 13) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part2 (List.getElem_mem (l := Cert.ReferenceIdeal.Hand.ops_part2 (F := Ideal)) (n := 17) (by decide))) rfl rfl rfl (by decide) (by decide) (ha := ⟨by decide, rfl⟩) (hb := ⟨by decide, rfl⟩) (hy := ⟨by decide, rfl⟩)
  rw [hk, hr, ← c_main_v15__main_v112 hag hel, ← c_main_cst_2__main_cst_22 hag hel]

theorem c_main_cst_3__main_cst_23 : StableHlo.after Cert.KernelIdeal.Hand.KOps (Cert.KernelIdeal.Hand.Wl (F := Ideal) m ρ c) (Proc.devRef .tc Cert.KernelIdeal.main_cst_3) = StableHlo.after (Cert.ReferenceIdeal.Hand.ops (F := Ideal)) (StableHlo.launchContents m' c) (Proc.devRef .tc Cert.ReferenceIdeal.main_cst_23) := by
  have hk := StableHlo.Ascending.eq_nullary Cert.KernelIdeal.Hand.KOps_asc (Cert.KernelIdeal.Hand.Wl m ρ c) (Cert.KernelIdeal.Hand.mem_KOps_st1 (Cert.KernelIdeal.Hand.mem_st_1 (List.getElem_mem (l := Cert.KernelIdeal.GenP.hostOps1 (F := Ideal)) (n := 14) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part2 (List.getElem_mem (l := Cert.ReferenceIdeal.Hand.ops_part2 (F := Ideal)) (n := 18) (by decide))) rfl (hy := ⟨by decide, rfl⟩)
  rw [hk, hr]

theorem c_main_v17__main_v114 : StableHlo.after Cert.KernelIdeal.Hand.KOps (Cert.KernelIdeal.Hand.Wl (F := Ideal) m ρ c) (Proc.devRef .tc Cert.KernelIdeal.main_v17) = StableHlo.after (Cert.ReferenceIdeal.Hand.ops (F := Ideal)) (StableHlo.launchContents m' c) (Proc.devRef .tc Cert.ReferenceIdeal.main_v114) := by
  have hk := StableHlo.Ascending.eq_binary Cert.KernelIdeal.Hand.KOps_asc (Cert.KernelIdeal.Hand.Wl m ρ c) (Cert.KernelIdeal.Hand.mem_KOps_st1 (Cert.KernelIdeal.Hand.mem_st_1 (List.getElem_mem (l := Cert.KernelIdeal.GenP.hostOps1 (F := Ideal)) (n := 15) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part2 (List.getElem_mem (l := Cert.ReferenceIdeal.Hand.ops_part2 (F := Ideal)) (n := 19) (by decide))) rfl rfl rfl (by decide) (by decide) (ha := ⟨by decide, rfl⟩) (hb := ⟨by decide, rfl⟩) (hy := ⟨by decide, rfl⟩)
  rw [hk, hr, ← c_main_v16__main_v113 hag hel, ← c_main_cst_3__main_cst_23 hag hel]

theorem c_main_v18__main_v115 : StableHlo.after Cert.KernelIdeal.Hand.KOps (Cert.KernelIdeal.Hand.Wl (F := Ideal) m ρ c) (Proc.devRef .tc Cert.KernelIdeal.main_v18) = StableHlo.after (Cert.ReferenceIdeal.Hand.ops (F := Ideal)) (StableHlo.launchContents m' c) (Proc.devRef .tc Cert.ReferenceIdeal.main_v115) := by
  have hk := StableHlo.Ascending.eq_unary Cert.KernelIdeal.Hand.KOps_asc (Cert.KernelIdeal.Hand.Wl m ρ c) (Cert.KernelIdeal.Hand.mem_KOps_st1 (Cert.KernelIdeal.Hand.mem_st_1 (List.getElem_mem (l := Cert.KernelIdeal.GenP.hostOps1 (F := Ideal)) (n := 16) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part2 (List.getElem_mem (l := Cert.ReferenceIdeal.Hand.ops_part2 (F := Ideal)) (n := 20) (by decide))) rfl rfl (by decide) (hx := ⟨by decide, rfl⟩) (hy := ⟨by decide, rfl⟩)
  rw [hk, hr, ← c_main_v17__main_v114 hag hel]

theorem c_main_v19__main_v116 : StableHlo.after Cert.KernelIdeal.Hand.KOps (Cert.KernelIdeal.Hand.Wl (F := Ideal) m ρ c) (Proc.devRef .tc Cert.KernelIdeal.main_v19) = StableHlo.after (Cert.ReferenceIdeal.Hand.ops (F := Ideal)) (StableHlo.launchContents m' c) (Proc.devRef .tc Cert.ReferenceIdeal.main_v116) := by
  have hk := StableHlo.Ascending.eq_binary Cert.KernelIdeal.Hand.KOps_asc (Cert.KernelIdeal.Hand.Wl m ρ c) (Cert.KernelIdeal.Hand.mem_KOps_st1 (Cert.KernelIdeal.Hand.mem_st_1 (List.getElem_mem (l := Cert.KernelIdeal.GenP.hostOps1 (F := Ideal)) (n := 17) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part2 (List.getElem_mem (l := Cert.ReferenceIdeal.Hand.ops_part2 (F := Ideal)) (n := 21) (by decide))) rfl rfl rfl (by decide) (by decide) (ha := ⟨by decide, rfl⟩) (hb := ⟨by decide, rfl⟩) (hy := ⟨by decide, rfl⟩)
  rw [hk, hr, ← c_main_v14__main_v111 hag hel, ← c_main_v18__main_v115 hag hel]

theorem c_main_v20__main_v117 : StableHlo.after Cert.KernelIdeal.Hand.KOps (Cert.KernelIdeal.Hand.Wl (F := Ideal) m ρ c) (Proc.devRef .tc Cert.KernelIdeal.main_v20) = StableHlo.after (Cert.ReferenceIdeal.Hand.ops (F := Ideal)) (StableHlo.launchContents m' c) (Proc.devRef .tc Cert.ReferenceIdeal.main_v117) := by
  have hk := StableHlo.Ascending.eq_unary Cert.KernelIdeal.Hand.KOps_asc (Cert.KernelIdeal.Hand.Wl m ρ c) (Cert.KernelIdeal.Hand.mem_KOps_st1 (Cert.KernelIdeal.Hand.mem_st_1 (List.getElem_mem (l := Cert.KernelIdeal.GenP.hostOps1 (F := Ideal)) (n := 18) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part2 (List.getElem_mem (l := Cert.ReferenceIdeal.Hand.ops_part2 (F := Ideal)) (n := 22) (by decide))) rfl rfl (by decide) (hx := ⟨by decide, rfl⟩) (hy := ⟨by decide, rfl⟩)
  rw [hk, hr, ← c_main_v19__main_v116 hag hel]

theorem c_main_v20__main_v118 : StableHlo.after Cert.KernelIdeal.Hand.KOps (Cert.KernelIdeal.Hand.Wl (F := Ideal) m ρ c) (Proc.devRef .tc Cert.KernelIdeal.main_v20) = StableHlo.after (Cert.ReferenceIdeal.Hand.ops (F := Ideal)) (StableHlo.launchContents m' c) (Proc.devRef .tc Cert.ReferenceIdeal.main_v118) :=
  (c_main_v20__main_v117 hag hel).trans (hel.el_main_v118).symm

theorem c_main_v21__main_v119 : StableHlo.after Cert.KernelIdeal.Hand.KOps (Cert.KernelIdeal.Hand.Wl (F := Ideal) m ρ c) (Proc.devRef .tc Cert.KernelIdeal.main_v21) = StableHlo.after (Cert.ReferenceIdeal.Hand.ops (F := Ideal)) (StableHlo.launchContents m' c) (Proc.devRef .tc Cert.ReferenceIdeal.main_v119) := by
  have hk := StableHlo.Ascending.eq_binary Cert.KernelIdeal.Hand.KOps_asc (Cert.KernelIdeal.Hand.Wl m ρ c) Cert.KernelIdeal.Hand.mem_KOps_reg1 rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part2 (List.getElem_mem (l := Cert.ReferenceIdeal.Hand.ops_part2 (F := Ideal)) (n := 24) (by decide))) rfl rfl rfl (by decide) (by decide) (ha := ⟨by decide, rfl⟩) (hb := ⟨by decide, rfl⟩) (hy := ⟨by decide, rfl⟩)
  rw [hk, hr, ← c_main_v20__main_v118 hag hel, ← c_main_v20__main_v117 hag hel]
  exact Cert.KernelIdeal.Hand.dot_eq1 _ _

theorem c_main_cst_4__main_cst_24 : StableHlo.after Cert.KernelIdeal.Hand.KOps (Cert.KernelIdeal.Hand.Wl (F := Ideal) m ρ c) (Proc.devRef .tc Cert.KernelIdeal.main_cst_4) = StableHlo.after (Cert.ReferenceIdeal.Hand.ops (F := Ideal)) (StableHlo.launchContents m' c) (Proc.devRef .tc Cert.ReferenceIdeal.main_cst_24) := by
  have hk := StableHlo.Ascending.eq_nullary Cert.KernelIdeal.Hand.KOps_asc (Cert.KernelIdeal.Hand.Wl m ρ c) (Cert.KernelIdeal.Hand.mem_KOps_st2 (Cert.KernelIdeal.Hand.mem_st_2 (List.getElem_mem (l := Cert.KernelIdeal.GenP.hostOps2 (F := Ideal)) (n := 0) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part2 (List.getElem_mem (l := Cert.ReferenceIdeal.Hand.ops_part2 (F := Ideal)) (n := 25) (by decide))) rfl (hy := ⟨by decide, rfl⟩)
  rw [hk, hr]

theorem c_main_v22__main_v120 : StableHlo.after Cert.KernelIdeal.Hand.KOps (Cert.KernelIdeal.Hand.Wl (F := Ideal) m ρ c) (Proc.devRef .tc Cert.KernelIdeal.main_v22) = StableHlo.after (Cert.ReferenceIdeal.Hand.ops (F := Ideal)) (StableHlo.launchContents m' c) (Proc.devRef .tc Cert.ReferenceIdeal.main_v120) := by
  have hk := StableHlo.Ascending.eq_unary Cert.KernelIdeal.Hand.KOps_asc (Cert.KernelIdeal.Hand.Wl m ρ c) (Cert.KernelIdeal.Hand.mem_KOps_st2 (Cert.KernelIdeal.Hand.mem_st_2 (List.getElem_mem (l := Cert.KernelIdeal.GenP.hostOps2 (F := Ideal)) (n := 1) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part2 (List.getElem_mem (l := Cert.ReferenceIdeal.Hand.ops_part2 (F := Ideal)) (n := 26) (by decide))) rfl rfl (by decide) (hx := ⟨by decide, rfl⟩) (hy := ⟨by decide, rfl⟩)
  rw [hk, hr, ← c_main_cst_4__main_cst_24 hag hel]

theorem c_main_v23__main_v121 : StableHlo.after Cert.KernelIdeal.Hand.KOps (Cert.KernelIdeal.Hand.Wl (F := Ideal) m ρ c) (Proc.devRef .tc Cert.KernelIdeal.main_v23) = StableHlo.after (Cert.ReferenceIdeal.Hand.ops (F := Ideal)) (StableHlo.launchContents m' c) (Proc.devRef .tc Cert.ReferenceIdeal.main_v121) := by
  have hk := StableHlo.Ascending.eq_binary Cert.KernelIdeal.Hand.KOps_asc (Cert.KernelIdeal.Hand.Wl m ρ c) (Cert.KernelIdeal.Hand.mem_KOps_st2 (Cert.KernelIdeal.Hand.mem_st_2 (List.getElem_mem (l := Cert.KernelIdeal.GenP.hostOps2 (F := Ideal)) (n := 2) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part2 (List.getElem_mem (l := Cert.ReferenceIdeal.Hand.ops_part2 (F := Ideal)) (n := 27) (by decide))) rfl rfl rfl (by decide) (by decide) (ha := ⟨by decide, rfl⟩) (hb := ⟨by decide, rfl⟩) (hy := ⟨by decide, rfl⟩)
  rw [hk, hr, ← c_main_v21__main_v119 hag hel, ← c_main_v22__main_v120 hag hel]

theorem c_main_v24__main_v122 : StableHlo.after Cert.KernelIdeal.Hand.KOps (Cert.KernelIdeal.Hand.Wl (F := Ideal) m ρ c) (Proc.devRef .tc Cert.KernelIdeal.main_v24) = StableHlo.after (Cert.ReferenceIdeal.Hand.ops (F := Ideal)) (StableHlo.launchContents m' c) (Proc.devRef .tc Cert.ReferenceIdeal.main_v122) := by
  have hk := StableHlo.Ascending.eq_unary Cert.KernelIdeal.Hand.KOps_asc (Cert.KernelIdeal.Hand.Wl m ρ c) (Cert.KernelIdeal.Hand.mem_KOps_st2 (Cert.KernelIdeal.Hand.mem_st_2 (List.getElem_mem (l := Cert.KernelIdeal.GenP.hostOps2 (F := Ideal)) (n := 3) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part2 (List.getElem_mem (l := Cert.ReferenceIdeal.Hand.ops_part2 (F := Ideal)) (n := 28) (by decide))) rfl rfl (by decide) (hx := ⟨by decide, rfl⟩) (hy := ⟨by decide, rfl⟩)
  rw [hk, hr, ← c_main_v23__main_v121 hag hel]

theorem c_main_v24__main_v130 : StableHlo.after Cert.KernelIdeal.Hand.KOps (Cert.KernelIdeal.Hand.Wl (F := Ideal) m ρ c) (Proc.devRef .tc Cert.KernelIdeal.main_v24) = StableHlo.after (Cert.ReferenceIdeal.Hand.ops (F := Ideal)) (StableHlo.launchContents m' c) (Proc.devRef .tc Cert.ReferenceIdeal.main_v130) :=
  (c_main_v24__main_v122 hag hel).trans (hel.el_main_v130).symm

theorem c_main_v24__main_v1286 : StableHlo.after Cert.KernelIdeal.Hand.KOps (Cert.KernelIdeal.Hand.Wl (F := Ideal) m ρ c) (Proc.devRef .tc Cert.KernelIdeal.main_v24) = StableHlo.after (Cert.ReferenceIdeal.Hand.ops (F := Ideal)) (StableHlo.launchContents m' c) (Proc.devRef .tc Cert.ReferenceIdeal.main_v1286) :=
  (c_main_v24__main_v122 hag hel).trans (hel.el_main_v1286).symm

theorem c_main_v24__main_v1341 : StableHlo.after Cert.KernelIdeal.Hand.KOps (Cert.KernelIdeal.Hand.Wl (F := Ideal) m ρ c) (Proc.devRef .tc Cert.KernelIdeal.main_v24) = StableHlo.after (Cert.ReferenceIdeal.Hand.ops (F := Ideal)) (StableHlo.launchContents m' c) (Proc.devRef .tc Cert.ReferenceIdeal.main_v1341) :=
  (c_main_v24__main_v122 hag hel).trans (hel.el_main_v1341).symm

theorem c_main_v24__main_v1410 : StableHlo.after Cert.KernelIdeal.Hand.KOps (Cert.KernelIdeal.Hand.Wl (F := Ideal) m ρ c) (Proc.devRef .tc Cert.KernelIdeal.main_v24) = StableHlo.after (Cert.ReferenceIdeal.Hand.ops (F := Ideal)) (StableHlo.launchContents m' c) (Proc.devRef .tc Cert.ReferenceIdeal.main_v1410) :=
  (c_main_v24__main_v122 hag hel).trans (hel.el_main_v1410).symm

theorem c_main_v24__main_v1465 : StableHlo.after Cert.KernelIdeal.Hand.KOps (Cert.KernelIdeal.Hand.Wl (F := Ideal) m ρ c) (Proc.devRef .tc Cert.KernelIdeal.main_v24) = StableHlo.after (Cert.ReferenceIdeal.Hand.ops (F := Ideal)) (StableHlo.launchContents m' c) (Proc.devRef .tc Cert.ReferenceIdeal.main_v1465) :=
  (c_main_v24__main_v122 hag hel).trans (hel.el_main_v1465).symm

theorem c_main_v24__main_v1534 : StableHlo.after Cert.KernelIdeal.Hand.KOps (Cert.KernelIdeal.Hand.Wl (F := Ideal) m ρ c) (Proc.devRef .tc Cert.KernelIdeal.main_v24) = StableHlo.after (Cert.ReferenceIdeal.Hand.ops (F := Ideal)) (StableHlo.launchContents m' c) (Proc.devRef .tc Cert.ReferenceIdeal.main_v1534) :=
  (c_main_v24__main_v122 hag hel).trans (hel.el_main_v1534).symm

theorem c_main_v24__main_v1589 : StableHlo.after Cert.KernelIdeal.Hand.KOps (Cert.KernelIdeal.Hand.Wl (F := Ideal) m ρ c) (Proc.devRef .tc Cert.KernelIdeal.main_v24) = StableHlo.after (Cert.ReferenceIdeal.Hand.ops (F := Ideal)) (StableHlo.launchContents m' c) (Proc.devRef .tc Cert.ReferenceIdeal.main_v1589) :=
  (c_main_v24__main_v122 hag hel).trans (hel.el_main_v1589).symm

theorem c_main_v24__main_v1658 : StableHlo.after Cert.KernelIdeal.Hand.KOps (Cert.KernelIdeal.Hand.Wl (F := Ideal) m ρ c) (Proc.devRef .tc Cert.KernelIdeal.main_v24) = StableHlo.after (Cert.ReferenceIdeal.Hand.ops (F := Ideal)) (StableHlo.launchContents m' c) (Proc.devRef .tc Cert.ReferenceIdeal.main_v1658) :=
  (c_main_v24__main_v122 hag hel).trans (hel.el_main_v1658).symm

theorem c_main_v24__main_v1713 : StableHlo.after Cert.KernelIdeal.Hand.KOps (Cert.KernelIdeal.Hand.Wl (F := Ideal) m ρ c) (Proc.devRef .tc Cert.KernelIdeal.main_v24) = StableHlo.after (Cert.ReferenceIdeal.Hand.ops (F := Ideal)) (StableHlo.launchContents m' c) (Proc.devRef .tc Cert.ReferenceIdeal.main_v1713) :=
  (c_main_v24__main_v122 hag hel).trans (hel.el_main_v1713).symm

theorem c_main_v24__main_v2166 : StableHlo.after Cert.KernelIdeal.Hand.KOps (Cert.KernelIdeal.Hand.Wl (F := Ideal) m ρ c) (Proc.devRef .tc Cert.KernelIdeal.main_v24) = StableHlo.after (Cert.ReferenceIdeal.Hand.ops (F := Ideal)) (StableHlo.launchContents m' c) (Proc.devRef .tc Cert.ReferenceIdeal.main_v2166) :=
  (c_main_v24__main_v122 hag hel).trans (hel.el_main_v2166).symm

theorem c_main_v24__main_v2221 : StableHlo.after Cert.KernelIdeal.Hand.KOps (Cert.KernelIdeal.Hand.Wl (F := Ideal) m ρ c) (Proc.devRef .tc Cert.KernelIdeal.main_v24) = StableHlo.after (Cert.ReferenceIdeal.Hand.ops (F := Ideal)) (StableHlo.launchContents m' c) (Proc.devRef .tc Cert.ReferenceIdeal.main_v2221) :=
  (c_main_v24__main_v122 hag hel).trans (hel.el_main_v2221).symm

theorem c_main_cst_5__main_cst_25 : StableHlo.after Cert.KernelIdeal.Hand.KOps (Cert.KernelIdeal.Hand.Wl (F := Ideal) m ρ c) (Proc.devRef .tc Cert.KernelIdeal.main_cst_5) = StableHlo.after (Cert.ReferenceIdeal.Hand.ops (F := Ideal)) (StableHlo.launchContents m' c) (Proc.devRef .tc Cert.ReferenceIdeal.main_cst_25) := by
  have hk := StableHlo.Ascending.eq_nullary Cert.KernelIdeal.Hand.KOps_asc (Cert.KernelIdeal.Hand.Wl m ρ c) (Cert.KernelIdeal.Hand.mem_KOps_st2 (Cert.KernelIdeal.Hand.mem_st_2 (List.getElem_mem (l := Cert.KernelIdeal.GenP.hostOps2 (F := Ideal)) (n := 4) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part2 (List.getElem_mem (l := Cert.ReferenceIdeal.Hand.ops_part2 (F := Ideal)) (n := 29) (by decide))) rfl (hy := ⟨by decide, rfl⟩)
  rw [hk, hr]

theorem c_main_v25__main_v123 : StableHlo.after Cert.KernelIdeal.Hand.KOps (Cert.KernelIdeal.Hand.Wl (F := Ideal) m ρ c) (Proc.devRef .tc Cert.KernelIdeal.main_v25) = StableHlo.after (Cert.ReferenceIdeal.Hand.ops (F := Ideal)) (StableHlo.launchContents m' c) (Proc.devRef .tc Cert.ReferenceIdeal.main_v123) := by
  have hk := StableHlo.Ascending.eq_binary Cert.KernelIdeal.Hand.KOps_asc (Cert.KernelIdeal.Hand.Wl m ρ c) (Cert.KernelIdeal.Hand.mem_KOps_st2 (Cert.KernelIdeal.Hand.mem_st_2 (List.getElem_mem (l := Cert.KernelIdeal.GenP.hostOps2 (F := Ideal)) (n := 5) (by decide)))) rfl rfl rfl (by decide) (by decide) (a := Cert.KernelIdeal.main_v24) (b := Cert.KernelIdeal.main_cst_5) (y := Cert.KernelIdeal.main_v25) (f := open Cert.KernelIdeal Cert.KernelIdeal.Gen in (fun x v => Host.reduceAdd (F := Ideal) x v reducesTo_S2048x2048_S2048_d1 h_S_)) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part2 (List.getElem_mem (l := Cert.ReferenceIdeal.Hand.ops_part2 (F := Ideal)) (n := 30) (by decide))) rfl rfl rfl (by decide) (by decide) (a := Cert.ReferenceIdeal.main_v122) (b := Cert.ReferenceIdeal.main_cst_25) (y := Cert.ReferenceIdeal.main_v123) (f := open Cert.ReferenceIdeal Cert.ReferenceIdeal.Gen in (fun x v => Host.reduceAdd (F := Ideal) x v reducesTo_S2048x2048_S2048_d1 h_S_)) (ha := ⟨by decide, rfl⟩) (hb := ⟨by decide, rfl⟩) (hy := ⟨by decide, rfl⟩)
  rw [hk, hr, ← c_main_v24__main_v122 hag hel, ← c_main_cst_5__main_cst_25 hag hel]

theorem c_main_cst_6__main_cst_26 : StableHlo.after Cert.KernelIdeal.Hand.KOps (Cert.KernelIdeal.Hand.Wl (F := Ideal) m ρ c) (Proc.devRef .tc Cert.KernelIdeal.main_cst_6) = StableHlo.after (Cert.ReferenceIdeal.Hand.ops (F := Ideal)) (StableHlo.launchContents m' c) (Proc.devRef .tc Cert.ReferenceIdeal.main_cst_26) := by
  have hk := StableHlo.Ascending.eq_nullary Cert.KernelIdeal.Hand.KOps_asc (Cert.KernelIdeal.Hand.Wl m ρ c) (Cert.KernelIdeal.Hand.mem_KOps_st2 (Cert.KernelIdeal.Hand.mem_st_2 (List.getElem_mem (l := Cert.KernelIdeal.GenP.hostOps2 (F := Ideal)) (n := 6) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part2 (List.getElem_mem (l := Cert.ReferenceIdeal.Hand.ops_part2 (F := Ideal)) (n := 31) (by decide))) rfl (hy := ⟨by decide, rfl⟩)
  rw [hk, hr]

theorem c_main_v26__main_v124 : StableHlo.after Cert.KernelIdeal.Hand.KOps (Cert.KernelIdeal.Hand.Wl (F := Ideal) m ρ c) (Proc.devRef .tc Cert.KernelIdeal.main_v26) = StableHlo.after (Cert.ReferenceIdeal.Hand.ops (F := Ideal)) (StableHlo.launchContents m' c) (Proc.devRef .tc Cert.ReferenceIdeal.main_v124) := by
  have hk := StableHlo.Ascending.eq_unary Cert.KernelIdeal.Hand.KOps_asc (Cert.KernelIdeal.Hand.Wl m ρ c) (Cert.KernelIdeal.Hand.mem_KOps_st2 (Cert.KernelIdeal.Hand.mem_st_2 (List.getElem_mem (l := Cert.KernelIdeal.GenP.hostOps2 (F := Ideal)) (n := 7) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part2 (List.getElem_mem (l := Cert.ReferenceIdeal.Hand.ops_part2 (F := Ideal)) (n := 32) (by decide))) rfl rfl (by decide) (hx := ⟨by decide, rfl⟩) (hy := ⟨by decide, rfl⟩)
  rw [hk, hr, ← c_main_cst_6__main_cst_26 hag hel]

theorem c_main_v27__main_v125 : StableHlo.after Cert.KernelIdeal.Hand.KOps (Cert.KernelIdeal.Hand.Wl (F := Ideal) m ρ c) (Proc.devRef .tc Cert.KernelIdeal.main_v27) = StableHlo.after (Cert.ReferenceIdeal.Hand.ops (F := Ideal)) (StableHlo.launchContents m' c) (Proc.devRef .tc Cert.ReferenceIdeal.main_v125) := by
  have hk := StableHlo.Ascending.eq_binary Cert.KernelIdeal.Hand.KOps_asc (Cert.KernelIdeal.Hand.Wl m ρ c) (Cert.KernelIdeal.Hand.mem_KOps_st2 (Cert.KernelIdeal.Hand.mem_st_2 (List.getElem_mem (l := Cert.KernelIdeal.GenP.hostOps2 (F := Ideal)) (n := 8) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part2 (List.getElem_mem (l := Cert.ReferenceIdeal.Hand.ops_part2 (F := Ideal)) (n := 33) (by decide))) rfl rfl rfl (by decide) (by decide) (ha := ⟨by decide, rfl⟩) (hb := ⟨by decide, rfl⟩) (hy := ⟨by decide, rfl⟩)
  rw [hk, hr, ← c_main_v25__main_v123 hag hel, ← c_main_v26__main_v124 hag hel]

theorem c_main_cst_7__main_cst_27 : StableHlo.after Cert.KernelIdeal.Hand.KOps (Cert.KernelIdeal.Hand.Wl (F := Ideal) m ρ c) (Proc.devRef .tc Cert.KernelIdeal.main_cst_7) = StableHlo.after (Cert.ReferenceIdeal.Hand.ops (F := Ideal)) (StableHlo.launchContents m' c) (Proc.devRef .tc Cert.ReferenceIdeal.main_cst_27) := by
  have hk := StableHlo.Ascending.eq_nullary Cert.KernelIdeal.Hand.KOps_asc (Cert.KernelIdeal.Hand.Wl m ρ c) (Cert.KernelIdeal.Hand.mem_KOps_st2 (Cert.KernelIdeal.Hand.mem_st_2 (List.getElem_mem (l := Cert.KernelIdeal.GenP.hostOps2 (F := Ideal)) (n := 9) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part2 (List.getElem_mem (l := Cert.ReferenceIdeal.Hand.ops_part2 (F := Ideal)) (n := 34) (by decide))) rfl (hy := ⟨by decide, rfl⟩)
  rw [hk, hr]

theorem c_main_v28__main_v126 : StableHlo.after Cert.KernelIdeal.Hand.KOps (Cert.KernelIdeal.Hand.Wl (F := Ideal) m ρ c) (Proc.devRef .tc Cert.KernelIdeal.main_v28) = StableHlo.after (Cert.ReferenceIdeal.Hand.ops (F := Ideal)) (StableHlo.launchContents m' c) (Proc.devRef .tc Cert.ReferenceIdeal.main_v126) := by
  have hk := StableHlo.Ascending.eq_binary Cert.KernelIdeal.Hand.KOps_asc (Cert.KernelIdeal.Hand.Wl m ρ c) (Cert.KernelIdeal.Hand.mem_KOps_st2 (Cert.KernelIdeal.Hand.mem_st_2 (List.getElem_mem (l := Cert.KernelIdeal.GenP.hostOps2 (F := Ideal)) (n := 10) (by decide)))) rfl rfl rfl (by decide) (by decide) (a := Cert.KernelIdeal.main_v24) (b := Cert.KernelIdeal.main_cst_7) (y := Cert.KernelIdeal.main_v28) (f := open Cert.KernelIdeal Cert.KernelIdeal.Gen in (fun x v => Host.reduceAdd (F := Ideal) x v reducesTo_S2048x2048_S2048_d0 h_S_)) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part2 (List.getElem_mem (l := Cert.ReferenceIdeal.Hand.ops_part2 (F := Ideal)) (n := 35) (by decide))) rfl rfl rfl (by decide) (by decide) (a := Cert.ReferenceIdeal.main_v122) (b := Cert.ReferenceIdeal.main_cst_27) (y := Cert.ReferenceIdeal.main_v126) (f := open Cert.ReferenceIdeal Cert.ReferenceIdeal.Gen in (fun x v => Host.reduceAdd (F := Ideal) x v reducesTo_S2048x2048_S2048_d0 h_S_)) (ha := ⟨by decide, rfl⟩) (hb := ⟨by decide, rfl⟩) (hy := ⟨by decide, rfl⟩)
  rw [hk, hr, ← c_main_v24__main_v122 hag hel, ← c_main_cst_7__main_cst_27 hag hel]

theorem c_main_cst_8__main_cst_28 : StableHlo.after Cert.KernelIdeal.Hand.KOps (Cert.KernelIdeal.Hand.Wl (F := Ideal) m ρ c) (Proc.devRef .tc Cert.KernelIdeal.main_cst_8) = StableHlo.after (Cert.ReferenceIdeal.Hand.ops (F := Ideal)) (StableHlo.launchContents m' c) (Proc.devRef .tc Cert.ReferenceIdeal.main_cst_28) := by
  have hk := StableHlo.Ascending.eq_nullary Cert.KernelIdeal.Hand.KOps_asc (Cert.KernelIdeal.Hand.Wl m ρ c) (Cert.KernelIdeal.Hand.mem_KOps_st2 (Cert.KernelIdeal.Hand.mem_st_2 (List.getElem_mem (l := Cert.KernelIdeal.GenP.hostOps2 (F := Ideal)) (n := 11) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part2 (List.getElem_mem (l := Cert.ReferenceIdeal.Hand.ops_part2 (F := Ideal)) (n := 36) (by decide))) rfl (hy := ⟨by decide, rfl⟩)
  rw [hk, hr]

theorem c_main_v29__main_v127 : StableHlo.after Cert.KernelIdeal.Hand.KOps (Cert.KernelIdeal.Hand.Wl (F := Ideal) m ρ c) (Proc.devRef .tc Cert.KernelIdeal.main_v29) = StableHlo.after (Cert.ReferenceIdeal.Hand.ops (F := Ideal)) (StableHlo.launchContents m' c) (Proc.devRef .tc Cert.ReferenceIdeal.main_v127) := by
  have hk := StableHlo.Ascending.eq_unary Cert.KernelIdeal.Hand.KOps_asc (Cert.KernelIdeal.Hand.Wl m ρ c) (Cert.KernelIdeal.Hand.mem_KOps_st2 (Cert.KernelIdeal.Hand.mem_st_2 (List.getElem_mem (l := Cert.KernelIdeal.GenP.hostOps2 (F := Ideal)) (n := 12) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part2 (List.getElem_mem (l := Cert.ReferenceIdeal.Hand.ops_part2 (F := Ideal)) (n := 37) (by decide))) rfl rfl (by decide) (hx := ⟨by decide, rfl⟩) (hy := ⟨by decide, rfl⟩)
  rw [hk, hr, ← c_main_cst_8__main_cst_28 hag hel]

theorem c_main_v30__main_v128 : StableHlo.after Cert.KernelIdeal.Hand.KOps (Cert.KernelIdeal.Hand.Wl (F := Ideal) m ρ c) (Proc.devRef .tc Cert.KernelIdeal.main_v30) = StableHlo.after (Cert.ReferenceIdeal.Hand.ops (F := Ideal)) (StableHlo.launchContents m' c) (Proc.devRef .tc Cert.ReferenceIdeal.main_v128) := by
  have hk := StableHlo.Ascending.eq_binary Cert.KernelIdeal.Hand.KOps_asc (Cert.KernelIdeal.Hand.Wl m ρ c) (Cert.KernelIdeal.Hand.mem_KOps_st2 (Cert.KernelIdeal.Hand.mem_st_2 (List.getElem_mem (l := Cert.KernelIdeal.GenP.hostOps2 (F := Ideal)) (n := 13) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part2 (List.getElem_mem (l := Cert.ReferenceIdeal.Hand.ops_part2 (F := Ideal)) (n := 38) (by decide))) rfl rfl rfl (by decide) (by decide) (ha := ⟨by decide, rfl⟩) (hb := ⟨by decide, rfl⟩) (hy := ⟨by decide, rfl⟩)
  rw [hk, hr, ← c_main_v28__main_v126 hag hel, ← c_main_v29__main_v127 hag hel]

theorem c_main_v31__main_v131 : StableHlo.after Cert.KernelIdeal.Hand.KOps (Cert.KernelIdeal.Hand.Wl (F := Ideal) m ρ c) (Proc.devRef .tc Cert.KernelIdeal.main_v31) = StableHlo.after (Cert.ReferenceIdeal.Hand.ops (F := Ideal)) (StableHlo.launchContents m' c) (Proc.devRef .tc Cert.ReferenceIdeal.main_v131) := by
  have hk := StableHlo.Ascending.eq_unary Cert.KernelIdeal.Hand.KOps_asc (Cert.KernelIdeal.Hand.Wl m ρ c) (Cert.KernelIdeal.Hand.mem_KOps_st2 (Cert.KernelIdeal.Hand.mem_st_2 (List.getElem_mem (l := Cert.KernelIdeal.GenP.hostOps2 (F := Ideal)) (n := 14) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part2 (List.getElem_mem (l := Cert.ReferenceIdeal.Hand.ops_part2 (F := Ideal)) (n := 41) (by decide))) rfl rfl (by decide) (hx := ⟨by decide, rfl⟩) (hy := ⟨by decide, rfl⟩)
  rw [hk, hr, ← c_main_v27__main_v125 hag hel]

theorem c_main_v32__main_v132 : StableHlo.after Cert.KernelIdeal.Hand.KOps (Cert.KernelIdeal.Hand.Wl (F := Ideal) m ρ c) (Proc.devRef .tc Cert.KernelIdeal.main_v32) = StableHlo.after (Cert.ReferenceIdeal.Hand.ops (F := Ideal)) (StableHlo.launchContents m' c) (Proc.devRef .tc Cert.ReferenceIdeal.main_v132) := by
  have hk := StableHlo.Ascending.eq_unary Cert.KernelIdeal.Hand.KOps_asc (Cert.KernelIdeal.Hand.Wl m ρ c) (Cert.KernelIdeal.Hand.mem_KOps_st2 (Cert.KernelIdeal.Hand.mem_st_2 (List.getElem_mem (l := Cert.KernelIdeal.GenP.hostOps2 (F := Ideal)) (n := 15) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part2 (List.getElem_mem (l := Cert.ReferenceIdeal.Hand.ops_part2 (F := Ideal)) (n := 42) (by decide))) rfl rfl (by decide) (hx := ⟨by decide, rfl⟩) (hy := ⟨by decide, rfl⟩)
  rw [hk, hr, ← c_main_v31__main_v131 hag hel]

theorem c_main_v33__main_v133 : StableHlo.after Cert.KernelIdeal.Hand.KOps (Cert.KernelIdeal.Hand.Wl (F := Ideal) m ρ c) (Proc.devRef .tc Cert.KernelIdeal.main_v33) = StableHlo.after (Cert.ReferenceIdeal.Hand.ops (F := Ideal)) (StableHlo.launchContents m' c) (Proc.devRef .tc Cert.ReferenceIdeal.main_v133) := by
  have hk := StableHlo.Ascending.eq_binary Cert.KernelIdeal.Hand.KOps_asc (Cert.KernelIdeal.Hand.Wl m ρ c) (Cert.KernelIdeal.Hand.mem_KOps_st2 (Cert.KernelIdeal.Hand.mem_st_2 (List.getElem_mem (l := Cert.KernelIdeal.GenP.hostOps2 (F := Ideal)) (n := 16) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part2 (List.getElem_mem (l := Cert.ReferenceIdeal.Hand.ops_part2 (F := Ideal)) (n := 43) (by decide))) rfl rfl rfl (by decide) (by decide) (ha := ⟨by decide, rfl⟩) (hb := ⟨by decide, rfl⟩) (hy := ⟨by decide, rfl⟩)
  rw [hk, hr, ← c_main_v32__main_v132 hag hel, ← c_main_v1__main_v98 hag hel]

theorem c_main_v34__main_v134 : StableHlo.after Cert.KernelIdeal.Hand.KOps (Cert.KernelIdeal.Hand.Wl (F := Ideal) m ρ c) (Proc.devRef .tc Cert.KernelIdeal.main_v34) = StableHlo.after (Cert.ReferenceIdeal.Hand.ops (F := Ideal)) (StableHlo.launchContents m' c) (Proc.devRef .tc Cert.ReferenceIdeal.main_v134) := by
  have hk := StableHlo.Ascending.eq_binary Cert.KernelIdeal.Hand.KOps_asc (Cert.KernelIdeal.Hand.Wl m ρ c) Cert.KernelIdeal.Hand.mem_KOps_reg2 rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part2 (List.getElem_mem (l := Cert.ReferenceIdeal.Hand.ops_part2 (F := Ideal)) (n := 44) (by decide))) rfl rfl rfl (by decide) (by decide) (ha := ⟨by decide, rfl⟩) (hb := ⟨by decide, rfl⟩) (hy := ⟨by decide, rfl⟩)
  rw [hk, hr, ← c_main_v24__main_v130 hag hel, ← c_main_v33__main_v133 hag hel]
  exact Cert.KernelIdeal.Hand.dot_eq2 _ _

theorem c_main_v35__main_v129 : StableHlo.after Cert.KernelIdeal.Hand.KOps (Cert.KernelIdeal.Hand.Wl (F := Ideal) m ρ c) (Proc.devRef .tc Cert.KernelIdeal.main_v35) = StableHlo.after (Cert.ReferenceIdeal.Hand.ops (F := Ideal)) (StableHlo.launchContents m' c) (Proc.devRef .tc Cert.ReferenceIdeal.main_v129) := by
  have hk := StableHlo.Ascending.eq_unary Cert.KernelIdeal.Hand.KOps_asc (Cert.KernelIdeal.Hand.Wl m ρ c) (Cert.KernelIdeal.Hand.mem_KOps_st3 (Cert.KernelIdeal.Hand.mem_st_3 (List.getElem_mem (l := Cert.KernelIdeal.GenP.hostOps3 (F := Ideal)) (n := 0) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part2 (List.getElem_mem (l := Cert.ReferenceIdeal.Hand.ops_part2 (F := Ideal)) (n := 39) (by decide))) rfl rfl (by decide) (hx := ⟨by decide, rfl⟩) (hy := ⟨by decide, rfl⟩)
  rw [hk, hr, ← c_main_v30__main_v128 hag hel]

theorem c_main_v36__main_v135 : StableHlo.after Cert.KernelIdeal.Hand.KOps (Cert.KernelIdeal.Hand.Wl (F := Ideal) m ρ c) (Proc.devRef .tc Cert.KernelIdeal.main_v36) = StableHlo.after (Cert.ReferenceIdeal.Hand.ops (F := Ideal)) (StableHlo.launchContents m' c) (Proc.devRef .tc Cert.ReferenceIdeal.main_v135) := by
  have hk := StableHlo.Ascending.eq_unary Cert.KernelIdeal.Hand.KOps_asc (Cert.KernelIdeal.Hand.Wl m ρ c) (Cert.KernelIdeal.Hand.mem_KOps_st3 (Cert.KernelIdeal.Hand.mem_st_3 (List.getElem_mem (l := Cert.KernelIdeal.GenP.hostOps3 (F := Ideal)) (n := 1) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part2 (List.getElem_mem (l := Cert.ReferenceIdeal.Hand.ops_part2 (F := Ideal)) (n := 45) (by decide))) rfl rfl (by decide) (hx := ⟨by decide, rfl⟩) (hy := ⟨by decide, rfl⟩)
  rw [hk, hr, ← c_main_v35__main_v129 hag hel]

theorem c_main_v37__main_v136 : StableHlo.after Cert.KernelIdeal.Hand.KOps (Cert.KernelIdeal.Hand.Wl (F := Ideal) m ρ c) (Proc.devRef .tc Cert.KernelIdeal.main_v37) = StableHlo.after (Cert.ReferenceIdeal.Hand.ops (F := Ideal)) (StableHlo.launchContents m' c) (Proc.devRef .tc Cert.ReferenceIdeal.main_v136) := by
  have hk := StableHlo.Ascending.eq_binary Cert.KernelIdeal.Hand.KOps_asc (Cert.KernelIdeal.Hand.Wl m ρ c) (Cert.KernelIdeal.Hand.mem_KOps_st3 (Cert.KernelIdeal.Hand.mem_st_3 (List.getElem_mem (l := Cert.KernelIdeal.GenP.hostOps3 (F := Ideal)) (n := 2) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part2 (List.getElem_mem (l := Cert.ReferenceIdeal.Hand.ops_part2 (F := Ideal)) (n := 46) (by decide))) rfl rfl rfl (by decide) (by decide) (ha := ⟨by decide, rfl⟩) (hb := ⟨by decide, rfl⟩) (hy := ⟨by decide, rfl⟩)
  rw [hk, hr, ← c_main_v36__main_v135 hag hel, ← c_main_v34__main_v134 hag hel]

theorem c_main_v38__main_v137 : StableHlo.after Cert.KernelIdeal.Hand.KOps (Cert.KernelIdeal.Hand.Wl (F := Ideal) m ρ c) (Proc.devRef .tc Cert.KernelIdeal.main_v38) = StableHlo.after (Cert.ReferenceIdeal.Hand.ops (F := Ideal)) (StableHlo.launchContents m' c) (Proc.devRef .tc Cert.ReferenceIdeal.main_v137) := by
  have hk := StableHlo.Ascending.eq_binary Cert.KernelIdeal.Hand.KOps_asc (Cert.KernelIdeal.Hand.Wl m ρ c) Cert.KernelIdeal.Hand.mem_KOps_reg3 rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part2 (List.getElem_mem (l := Cert.ReferenceIdeal.Hand.ops_part2 (F := Ideal)) (n := 47) (by decide))) rfl rfl rfl (by decide) (by decide) (ha := ⟨by decide, rfl⟩) (hb := ⟨by decide, rfl⟩) (hy := ⟨by decide, rfl⟩)
  rw [hk, hr, ← c_main_v37__main_v136 hag hel, ← c_main_arg1__main_arg1 hag hel]
  exact Cert.KernelIdeal.Hand.dot_eq3 _ _

theorem c_main_v39__main_v138 : StableHlo.after Cert.KernelIdeal.Hand.KOps (Cert.KernelIdeal.Hand.Wl (F := Ideal) m ρ c) (Proc.devRef .tc Cert.KernelIdeal.main_v39) = StableHlo.after (Cert.ReferenceIdeal.Hand.ops (F := Ideal)) (StableHlo.launchContents m' c) (Proc.devRef .tc Cert.ReferenceIdeal.main_v138) := by
  have hk := StableHlo.Ascending.eq_unary Cert.KernelIdeal.Hand.KOps_asc (Cert.KernelIdeal.Hand.Wl m ρ c) (Cert.KernelIdeal.Hand.mem_KOps_st4 (Cert.KernelIdeal.Hand.mem_st_4 (List.getElem_mem (l := Cert.KernelIdeal.GenP.hostOps4 (F := Ideal)) (n := 0) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part2 (List.getElem_mem (l := Cert.ReferenceIdeal.Hand.ops_part2 (F := Ideal)) (n := 48) (by decide))) rfl rfl (by decide) (hx := ⟨by decide, rfl⟩) (hy := ⟨by decide, rfl⟩)
  rw [hk, hr, ← c_main_v27__main_v125 hag hel]

end Cert.Value

end
-- ==== Proof.Val.C001.lean ====
/- Steps C001 of the value claim's chain: for each listed pair, the kernel program's buffer and its reference twin hold equal contents at the two programs' final
   valuations — the two operations are the same function (read off the two operation lists) of operands already paired. A table; written by: bun scratch/corr.js 60 -/
import proofs.«146970_j35948876268088_1_alg».proof.Proof.Val.Seed
import proofs.«146970_j35948876268088_1_alg».proof.Proof.KI.Dots
import Mathlib.Tactic.FinCases
import proofs.«146970_j35948876268088_1_alg».proof.Proof.Val.C000

set_option maxRecDepth 16384

noncomputable section

namespace Cert.Value

open Idealize.ShloMosaic Idealize.ShloMosaic.TcCoe Idealize.SL.Sem

variable {m : (ℓ : Loc Cert.KernelIdeal.nD Cert.KernelIdeal.τ Cert.KernelIdeal.sig) → Buf (Elt Ideal) ℓ} {ρ : Dev Cert.KernelIdeal.nD → PrngReg}
  {m' : (ℓ : Loc Cert.ReferenceIdeal.nD Cert.ReferenceIdeal.τ Cert.ReferenceIdeal.sig) → Buf (Elt Ideal) ℓ} {c : Dev Cert.KernelIdeal.nD} (hag : Agree m m') (hel : Els m' c)
include hag hel

theorem c_main_v40__main_v139 : StableHlo.after Cert.KernelIdeal.Hand.KOps (Cert.KernelIdeal.Hand.Wl (F := Ideal) m ρ c) (Proc.devRef .tc Cert.KernelIdeal.main_v40) = StableHlo.after (Cert.ReferenceIdeal.Hand.ops (F := Ideal)) (StableHlo.launchContents m' c) (Proc.devRef .tc Cert.ReferenceIdeal.main_v139) := by
  have hk := StableHlo.Ascending.eq_unary Cert.KernelIdeal.Hand.KOps_asc (Cert.KernelIdeal.Hand.Wl m ρ c) (Cert.KernelIdeal.Hand.mem_KOps_st4 (Cert.KernelIdeal.Hand.mem_st_4 (List.getElem_mem (l := Cert.KernelIdeal.GenP.hostOps4 (F := Ideal)) (n := 1) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part2 (List.getElem_mem (l := Cert.ReferenceIdeal.Hand.ops_part2 (F := Ideal)) (n := 49) (by decide))) rfl rfl (by decide) (hx := ⟨by decide, rfl⟩) (hy := ⟨by decide, rfl⟩)
  rw [hk, hr, ← c_main_v30__main_v128 hag hel]

theorem c_main_v41__main_v140 : StableHlo.after Cert.KernelIdeal.Hand.KOps (Cert.KernelIdeal.Hand.Wl (F := Ideal) m ρ c) (Proc.devRef .tc Cert.KernelIdeal.main_v41) = StableHlo.after (Cert.ReferenceIdeal.Hand.ops (F := Ideal)) (StableHlo.launchContents m' c) (Proc.devRef .tc Cert.ReferenceIdeal.main_v140) := by
  have hk := StableHlo.Ascending.eq_unary Cert.KernelIdeal.Hand.KOps_asc (Cert.KernelIdeal.Hand.Wl m ρ c) (Cert.KernelIdeal.Hand.mem_KOps_st4 (Cert.KernelIdeal.Hand.mem_st_4 (List.getElem_mem (l := Cert.KernelIdeal.GenP.hostOps4 (F := Ideal)) (n := 2) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part2 (List.getElem_mem (l := Cert.ReferenceIdeal.Hand.ops_part2 (F := Ideal)) (n := 50) (by decide))) rfl rfl (by decide) (hx := ⟨by decide, rfl⟩) (hy := ⟨by decide, rfl⟩)
  rw [hk, hr, ← c_main_v40__main_v139 hag hel]

theorem c_main_v42__main_v141 : StableHlo.after Cert.KernelIdeal.Hand.KOps (Cert.KernelIdeal.Hand.Wl (F := Ideal) m ρ c) (Proc.devRef .tc Cert.KernelIdeal.main_v42) = StableHlo.after (Cert.ReferenceIdeal.Hand.ops (F := Ideal)) (StableHlo.launchContents m' c) (Proc.devRef .tc Cert.ReferenceIdeal.main_v141) := by
  have hk := StableHlo.Ascending.eq_binary Cert.KernelIdeal.Hand.KOps_asc (Cert.KernelIdeal.Hand.Wl m ρ c) (Cert.KernelIdeal.Hand.mem_KOps_st4 (Cert.KernelIdeal.Hand.mem_st_4 (List.getElem_mem (l := Cert.KernelIdeal.GenP.hostOps4 (F := Ideal)) (n := 3) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part2 (List.getElem_mem (l := Cert.ReferenceIdeal.Hand.ops_part2 (F := Ideal)) (n := 51) (by decide))) rfl rfl rfl (by decide) (by decide) (ha := ⟨by decide, rfl⟩) (hb := ⟨by decide, rfl⟩) (hy := ⟨by decide, rfl⟩)
  rw [hk, hr, ← c_main_v41__main_v140 hag hel, ← c_main_v38__main_v137 hag hel]

theorem c_main_v43__main_v142 : StableHlo.after Cert.KernelIdeal.Hand.KOps (Cert.KernelIdeal.Hand.Wl (F := Ideal) m ρ c) (Proc.devRef .tc Cert.KernelIdeal.main_v43) = StableHlo.after (Cert.ReferenceIdeal.Hand.ops (F := Ideal)) (StableHlo.launchContents m' c) (Proc.devRef .tc Cert.ReferenceIdeal.main_v142) := by
  have hk := StableHlo.Ascending.eq_binary Cert.KernelIdeal.Hand.KOps_asc (Cert.KernelIdeal.Hand.Wl m ρ c) Cert.KernelIdeal.Hand.mem_KOps_reg4 rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part2 (List.getElem_mem (l := Cert.ReferenceIdeal.Hand.ops_part2 (F := Ideal)) (n := 52) (by decide))) rfl rfl rfl (by decide) (by decide) (ha := ⟨by decide, rfl⟩) (hb := ⟨by decide, rfl⟩) (hy := ⟨by decide, rfl⟩)
  rw [hk, hr, ← c_main_v24__main_v122 hag hel, ← c_main_v42__main_v141 hag hel]
  exact Cert.KernelIdeal.Hand.dot_eq4 _ _

theorem c_main_v44__main_v143 : StableHlo.after Cert.KernelIdeal.Hand.KOps (Cert.KernelIdeal.Hand.Wl (F := Ideal) m ρ c) (Proc.devRef .tc Cert.KernelIdeal.main_v44) = StableHlo.after (Cert.ReferenceIdeal.Hand.ops (F := Ideal)) (StableHlo.launchContents m' c) (Proc.devRef .tc Cert.ReferenceIdeal.main_v143) := by
  have hk := StableHlo.Ascending.eq_unary Cert.KernelIdeal.Hand.KOps_asc (Cert.KernelIdeal.Hand.Wl m ρ c) (Cert.KernelIdeal.Hand.mem_KOps_st5 (Cert.KernelIdeal.Hand.mem_st_5 (List.getElem_mem (l := Cert.KernelIdeal.GenP.hostOps5 (F := Ideal)) (n := 0) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part2 (List.getElem_mem (l := Cert.ReferenceIdeal.Hand.ops_part2 (F := Ideal)) (n := 53) (by decide))) rfl rfl (by decide) (hx := ⟨by decide, rfl⟩) (hy := ⟨by decide, rfl⟩)
  rw [hk, hr, ← c_main_v39__main_v138 hag hel]

theorem c_main_v45__main_v144 : StableHlo.after Cert.KernelIdeal.Hand.KOps (Cert.KernelIdeal.Hand.Wl (F := Ideal) m ρ c) (Proc.devRef .tc Cert.KernelIdeal.main_v45) = StableHlo.after (Cert.ReferenceIdeal.Hand.ops (F := Ideal)) (StableHlo.launchContents m' c) (Proc.devRef .tc Cert.ReferenceIdeal.main_v144) := by
  have hk := StableHlo.Ascending.eq_binary Cert.KernelIdeal.Hand.KOps_asc (Cert.KernelIdeal.Hand.Wl m ρ c) (Cert.KernelIdeal.Hand.mem_KOps_st5 (Cert.KernelIdeal.Hand.mem_st_5 (List.getElem_mem (l := Cert.KernelIdeal.GenP.hostOps5 (F := Ideal)) (n := 1) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part2 (List.getElem_mem (l := Cert.ReferenceIdeal.Hand.ops_part2 (F := Ideal)) (n := 54) (by decide))) rfl rfl rfl (by decide) (by decide) (ha := ⟨by decide, rfl⟩) (hb := ⟨by decide, rfl⟩) (hy := ⟨by decide, rfl⟩)
  rw [hk, hr, ← c_main_v44__main_v143 hag hel, ← c_main_v43__main_v142 hag hel]

theorem c_main_v46__main_v145 : StableHlo.after Cert.KernelIdeal.Hand.KOps (Cert.KernelIdeal.Hand.Wl (F := Ideal) m ρ c) (Proc.devRef .tc Cert.KernelIdeal.main_v46) = StableHlo.after (Cert.ReferenceIdeal.Hand.ops (F := Ideal)) (StableHlo.launchContents m' c) (Proc.devRef .tc Cert.ReferenceIdeal.main_v145) := by
  have hk := StableHlo.Ascending.eq_unary Cert.KernelIdeal.Hand.KOps_asc (Cert.KernelIdeal.Hand.Wl m ρ c) (Cert.KernelIdeal.Hand.mem_KOps_st5 (Cert.KernelIdeal.Hand.mem_st_5 (List.getElem_mem (l := Cert.KernelIdeal.GenP.hostOps5 (F := Ideal)) (n := 2) (by decide)))) rfl rfl (by decide) (x := Cert.KernelIdeal.main_arg6) (y := Cert.KernelIdeal.main_v46) (f := open Cert.KernelIdeal Cert.KernelIdeal.Gen in (extractStridedSlice S1x16x16 ![0, 0, 0] · slices_S3x16x16_S1x16x16_0_0_0)) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part2 (List.getElem_mem (l := Cert.ReferenceIdeal.Hand.ops_part2 (F := Ideal)) (n := 55) (by decide))) rfl rfl (by decide) (x := Cert.ReferenceIdeal.main_arg6) (y := Cert.ReferenceIdeal.main_v145) (f := open Cert.ReferenceIdeal Cert.ReferenceIdeal.Gen in (extractStridedSlice S1x16x16 ![0, 0, 0] · slices_S3x16x16_S1x16x16_0_0_0)) (hx := ⟨by decide, rfl⟩) (hy := ⟨by decide, rfl⟩)
  rw [hk, hr, ← c_main_arg6__main_arg6 hag hel]

theorem c_main_v47__main_v146 : StableHlo.after Cert.KernelIdeal.Hand.KOps (Cert.KernelIdeal.Hand.Wl (F := Ideal) m ρ c) (Proc.devRef .tc Cert.KernelIdeal.main_v47) = StableHlo.after (Cert.ReferenceIdeal.Hand.ops (F := Ideal)) (StableHlo.launchContents m' c) (Proc.devRef .tc Cert.ReferenceIdeal.main_v146) := by
  have hk := StableHlo.Ascending.eq_reshape Cert.KernelIdeal.Hand.KOps_asc (Cert.KernelIdeal.Hand.Wl m ρ c) (Cert.KernelIdeal.Hand.mem_KOps_st5 (Cert.KernelIdeal.Hand.mem_st_5 (List.getElem_mem (l := Cert.KernelIdeal.GenP.hostOps5 (F := Ideal)) (n := 3) (by decide)))) rfl rfl (by decide) (x := Cert.KernelIdeal.main_v46) (y := Cert.KernelIdeal.main_v47) (he := rfl) (hn := Cert.KernelIdeal.Gen.shapeCasts_S1x16x16_S16x16) (hx := ⟨by decide, rfl⟩) (hy := ⟨by decide, rfl⟩)
  have hr := StableHlo.Ascending.eq_reshape (Cert.ReferenceIdeal.Hand.ops_asc (F := Ideal)) (StableHlo.launchContents m' c) (Cert.ReferenceIdeal.Hand.mem_ops_part2 (List.getElem_mem (l := Cert.ReferenceIdeal.Hand.ops_part2 (F := Ideal)) (n := 56) (by decide))) rfl rfl (by decide) (x := Cert.ReferenceIdeal.main_v145) (y := Cert.ReferenceIdeal.main_v146) (he := rfl) (hn := Cert.ReferenceIdeal.Gen.shapeCasts_S1x16x16_S16x16) (hx := ⟨by decide, rfl⟩) (hy := ⟨by decide, rfl⟩)
  rw [hk, hr, ← c_main_v46__main_v145 hag hel]
  rfl

theorem c_main_v48__main_v147 : StableHlo.after Cert.KernelIdeal.Hand.KOps (Cert.KernelIdeal.Hand.Wl (F := Ideal) m ρ c) (Proc.devRef .tc Cert.KernelIdeal.main_v48) = StableHlo.after (Cert.ReferenceIdeal.Hand.ops (F := Ideal)) (StableHlo.launchContents m' c) (Proc.devRef .tc Cert.ReferenceIdeal.main_v147) := by
  have hk := StableHlo.Ascending.eq_binary Cert.KernelIdeal.Hand.KOps_asc (Cert.KernelIdeal.Hand.Wl m ρ c) (Cert.KernelIdeal.Hand.mem_KOps_st5 (Cert.KernelIdeal.Hand.mem_st_5 (List.getElem_mem (l := Cert.KernelIdeal.GenP.hostOps5 (F := Ideal)) (n := 4) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part2 (List.getElem_mem (l := Cert.ReferenceIdeal.Hand.ops_part2 (F := Ideal)) (n := 57) (by decide))) rfl rfl rfl (by decide) (by decide) (ha := ⟨by decide, rfl⟩) (hb := ⟨by decide, rfl⟩) (hy := ⟨by decide, rfl⟩)
  rw [hk, hr, ← c_main_v47__main_v146 hag hel, ← c_main_arg5__main_arg5 hag hel]
  rfl

theorem c_main_v49__main_v148 : StableHlo.after Cert.KernelIdeal.Hand.KOps (Cert.KernelIdeal.Hand.Wl (F := Ideal) m ρ c) (Proc.devRef .tc Cert.KernelIdeal.main_v49) = StableHlo.after (Cert.ReferenceIdeal.Hand.ops (F := Ideal)) (StableHlo.launchContents m' c) (Proc.devRef .tc Cert.ReferenceIdeal.main_v148) := by
  have hk := StableHlo.Ascending.eq_unary Cert.KernelIdeal.Hand.KOps_asc (Cert.KernelIdeal.Hand.Wl m ρ c) (Cert.KernelIdeal.Hand.mem_KOps_st5 (Cert.KernelIdeal.Hand.mem_st_5 (List.getElem_mem (l := Cert.KernelIdeal.GenP.hostOps5 (F := Ideal)) (n := 5) (by decide)))) rfl rfl (by decide) (x := Cert.KernelIdeal.main_arg7) (y := Cert.KernelIdeal.main_v49) (f := open Cert.KernelIdeal Cert.KernelIdeal.Gen in (extractStridedSlice S1x16x16 ![0, 0, 0] · slices_S3x16x16_S1x16x16_0_0_0)) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part2 (List.getElem_mem (l := Cert.ReferenceIdeal.Hand.ops_part2 (F := Ideal)) (n := 58) (by decide))) rfl rfl (by decide) (x := Cert.ReferenceIdeal.main_arg7) (y := Cert.ReferenceIdeal.main_v148) (f := open Cert.ReferenceIdeal Cert.ReferenceIdeal.Gen in (extractStridedSlice S1x16x16 ![0, 0, 0] · slices_S3x16x16_S1x16x16_0_0_0)) (hx := ⟨by decide, rfl⟩) (hy := ⟨by decide, rfl⟩)
  rw [hk, hr, ← c_main_arg7__main_arg7 hag hel]

theorem c_main_v50__main_v149 : StableHlo.after Cert.KernelIdeal.Hand.KOps (Cert.KernelIdeal.Hand.Wl (F := Ideal) m ρ c) (Proc.devRef .tc Cert.KernelIdeal.main_v50) = StableHlo.after (Cert.ReferenceIdeal.Hand.ops (F := Ideal)) (StableHlo.launchContents m' c) (Proc.devRef .tc Cert.ReferenceIdeal.main_v149) := by
  have hk := StableHlo.Ascending.eq_reshape Cert.KernelIdeal.Hand.KOps_asc (Cert.KernelIdeal.Hand.Wl m ρ c) (Cert.KernelIdeal.Hand.mem_KOps_st5 (Cert.KernelIdeal.Hand.mem_st_5 (List.getElem_mem (l := Cert.KernelIdeal.GenP.hostOps5 (F := Ideal)) (n := 6) (by decide)))) rfl rfl (by decide) (x := Cert.KernelIdeal.main_v49) (y := Cert.KernelIdeal.main_v50) (he := rfl) (hn := Cert.KernelIdeal.Gen.shapeCasts_S1x16x16_S16x16) (hx := ⟨by decide, rfl⟩) (hy := ⟨by decide, rfl⟩)
  have hr := StableHlo.Ascending.eq_reshape (Cert.ReferenceIdeal.Hand.ops_asc (F := Ideal)) (StableHlo.launchContents m' c) (Cert.ReferenceIdeal.Hand.mem_ops_part2 (List.getElem_mem (l := Cert.ReferenceIdeal.Hand.ops_part2 (F := Ideal)) (n := 59) (by decide))) rfl rfl (by decide) (x := Cert.ReferenceIdeal.main_v148) (y := Cert.ReferenceIdeal.main_v149) (he := rfl) (hn := Cert.ReferenceIdeal.Gen.shapeCasts_S1x16x16_S16x16) (hx := ⟨by decide, rfl⟩) (hy := ⟨by decide, rfl⟩)
  rw [hk, hr, ← c_main_v49__main_v148 hag hel]
  rfl

theorem c_main_v51__main_v150 : StableHlo.after Cert.KernelIdeal.Hand.KOps (Cert.KernelIdeal.Hand.Wl (F := Ideal) m ρ c) (Proc.devRef .tc Cert.KernelIdeal.main_v51) = StableHlo.after (Cert.ReferenceIdeal.Hand.ops (F := Ideal)) (StableHlo.launchContents m' c) (Proc.devRef .tc Cert.ReferenceIdeal.main_v150) := by
  have hk := StableHlo.Ascending.eq_binary Cert.KernelIdeal.Hand.KOps_asc (Cert.KernelIdeal.Hand.Wl m ρ c) (Cert.KernelIdeal.Hand.mem_KOps_st5 (Cert.KernelIdeal.Hand.mem_st_5 (List.getElem_mem (l := Cert.KernelIdeal.GenP.hostOps5 (F := Ideal)) (n := 7) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part3 (List.getElem_mem (l := Cert.ReferenceIdeal.Hand.ops_part3 (F := Ideal)) (n := 0) (by decide))) rfl rfl rfl (by decide) (by decide) (ha := ⟨by decide, rfl⟩) (hb := ⟨by decide, rfl⟩) (hy := ⟨by decide, rfl⟩)
  rw [hk, hr, ← c_main_v50__main_v149 hag hel, ← c_main_arg5__main_arg5 hag hel]
  rfl

theorem c_main_v52__main_v151 : StableHlo.after Cert.KernelIdeal.Hand.KOps (Cert.KernelIdeal.Hand.Wl (F := Ideal) m ρ c) (Proc.devRef .tc Cert.KernelIdeal.main_v52) = StableHlo.after (Cert.ReferenceIdeal.Hand.ops (F := Ideal)) (StableHlo.launchContents m' c) (Proc.devRef .tc Cert.ReferenceIdeal.main_v151) := by
  have hk := StableHlo.Ascending.eq_binary Cert.KernelIdeal.Hand.KOps_asc (Cert.KernelIdeal.Hand.Wl m ρ c) (Cert.KernelIdeal.Hand.mem_KOps_st5 (Cert.KernelIdeal.Hand.mem_st_5 (List.getElem_mem (l := Cert.KernelIdeal.GenP.hostOps5 (F := Ideal)) (n := 8) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part3 (List.getElem_mem (l := Cert.ReferenceIdeal.Hand.ops_part3 (F := Ideal)) (n := 1) (by decide))) rfl rfl rfl (by decide) (by decide) (ha := ⟨by decide, rfl⟩) (hb := ⟨by decide, rfl⟩) (hy := ⟨by decide, rfl⟩)
  rw [hk, hr, ← c_main_v48__main_v147 hag hel, ← c_main_v51__main_v150 hag hel]

theorem c_main_v53__main_v152 : StableHlo.after Cert.KernelIdeal.Hand.KOps (Cert.KernelIdeal.Hand.Wl (F := Ideal) m ρ c) (Proc.devRef .tc Cert.KernelIdeal.main_v53) = StableHlo.after (Cert.ReferenceIdeal.Hand.ops (F := Ideal)) (StableHlo.launchContents m' c) (Proc.devRef .tc Cert.ReferenceIdeal.main_v152) := by
  have hk := StableHlo.Ascending.eq_unary Cert.KernelIdeal.Hand.KOps_asc (Cert.KernelIdeal.Hand.Wl m ρ c) (Cert.KernelIdeal.Hand.mem_KOps_st5 (Cert.KernelIdeal.Hand.mem_st_5 (List.getElem_mem (l := Cert.KernelIdeal.GenP.hostOps5 (F := Ideal)) (n := 9) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part3 (List.getElem_mem (l := Cert.ReferenceIdeal.Hand.ops_part3 (F := Ideal)) (n := 2) (by decide))) rfl rfl (by decide) (hx := ⟨by decide, rfl⟩) (hy := ⟨by decide, rfl⟩)
  rw [hk, hr, ← c_main_v52__main_v151 hag hel]

theorem c_main_v54__main_v153 : StableHlo.after Cert.KernelIdeal.Hand.KOps (Cert.KernelIdeal.Hand.Wl (F := Ideal) m ρ c) (Proc.devRef .tc Cert.KernelIdeal.main_v54) = StableHlo.after (Cert.ReferenceIdeal.Hand.ops (F := Ideal)) (StableHlo.launchContents m' c) (Proc.devRef .tc Cert.ReferenceIdeal.main_v153) := by
  have hk := StableHlo.Ascending.eq_unary Cert.KernelIdeal.Hand.KOps_asc (Cert.KernelIdeal.Hand.Wl m ρ c) (Cert.KernelIdeal.Hand.mem_KOps_st5 (Cert.KernelIdeal.Hand.mem_st_5 (List.getElem_mem (l := Cert.KernelIdeal.GenP.hostOps5 (F := Ideal)) (n := 10) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part3 (List.getElem_mem (l := Cert.ReferenceIdeal.Hand.ops_part3 (F := Ideal)) (n := 3) (by decide))) rfl rfl (by decide) (hx := ⟨by decide, rfl⟩) (hy := ⟨by decide, rfl⟩)
  rw [hk, hr, ← c_main_v53__main_v152 hag hel]

theorem c_main_cst_9__main_cst_29 : StableHlo.after Cert.KernelIdeal.Hand.KOps (Cert.KernelIdeal.Hand.Wl (F := Ideal) m ρ c) (Proc.devRef .tc Cert.KernelIdeal.main_cst_9) = StableHlo.after (Cert.ReferenceIdeal.Hand.ops (F := Ideal)) (StableHlo.launchContents m' c) (Proc.devRef .tc Cert.ReferenceIdeal.main_cst_29) := by
  have hk := StableHlo.Ascending.eq_nullary Cert.KernelIdeal.Hand.KOps_asc (Cert.KernelIdeal.Hand.Wl m ρ c) (Cert.KernelIdeal.Hand.mem_KOps_st5 (Cert.KernelIdeal.Hand.mem_st_5 (List.getElem_mem (l := Cert.KernelIdeal.GenP.hostOps5 (F := Ideal)) (n := 11) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part3 (List.getElem_mem (l := Cert.ReferenceIdeal.Hand.ops_part3 (F := Ideal)) (n := 4) (by decide))) rfl (hy := ⟨by decide, rfl⟩)
  rw [hk, hr]

theorem c_main_v55__main_v154 : StableHlo.after Cert.KernelIdeal.Hand.KOps (Cert.KernelIdeal.Hand.Wl (F := Ideal) m ρ c) (Proc.devRef .tc Cert.KernelIdeal.main_v55) = StableHlo.after (Cert.ReferenceIdeal.Hand.ops (F := Ideal)) (StableHlo.launchContents m' c) (Proc.devRef .tc Cert.ReferenceIdeal.main_v154) := by
  have hk := StableHlo.Ascending.eq_unary Cert.KernelIdeal.Hand.KOps_asc (Cert.KernelIdeal.Hand.Wl m ρ c) (Cert.KernelIdeal.Hand.mem_KOps_st5 (Cert.KernelIdeal.Hand.mem_st_5 (List.getElem_mem (l := Cert.KernelIdeal.GenP.hostOps5 (F := Ideal)) (n := 12) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part3 (List.getElem_mem (l := Cert.ReferenceIdeal.Hand.ops_part3 (F := Ideal)) (n := 5) (by decide))) rfl rfl (by decide) (hx := ⟨by decide, rfl⟩) (hy := ⟨by decide, rfl⟩)
  rw [hk, hr, ← c_main_cst_9__main_cst_29 hag hel]

theorem c_main_v56__main_v155 : StableHlo.after Cert.KernelIdeal.Hand.KOps (Cert.KernelIdeal.Hand.Wl (F := Ideal) m ρ c) (Proc.devRef .tc Cert.KernelIdeal.main_v56) = StableHlo.after (Cert.ReferenceIdeal.Hand.ops (F := Ideal)) (StableHlo.launchContents m' c) (Proc.devRef .tc Cert.ReferenceIdeal.main_v155) := by
  have hk := StableHlo.Ascending.eq_binary Cert.KernelIdeal.Hand.KOps_asc (Cert.KernelIdeal.Hand.Wl m ρ c) (Cert.KernelIdeal.Hand.mem_KOps_st5 (Cert.KernelIdeal.Hand.mem_st_5 (List.getElem_mem (l := Cert.KernelIdeal.GenP.hostOps5 (F := Ideal)) (n := 13) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part3 (List.getElem_mem (l := Cert.ReferenceIdeal.Hand.ops_part3 (F := Ideal)) (n := 6) (by decide))) rfl rfl rfl (by decide) (by decide) (ha := ⟨by decide, rfl⟩) (hb := ⟨by decide, rfl⟩) (hy := ⟨by decide, rfl⟩)
  rw [hk, hr, ← c_main_v55__main_v154 hag hel, ← c_main_v54__main_v153 hag hel]

theorem c_main_cst_10__main_cst_30 : StableHlo.after Cert.KernelIdeal.Hand.KOps (Cert.KernelIdeal.Hand.Wl (F := Ideal) m ρ c) (Proc.devRef .tc Cert.KernelIdeal.main_cst_10) = StableHlo.after (Cert.ReferenceIdeal.Hand.ops (F := Ideal)) (StableHlo.launchContents m' c) (Proc.devRef .tc Cert.ReferenceIdeal.main_cst_30) := by
  have hk := StableHlo.Ascending.eq_nullary Cert.KernelIdeal.Hand.KOps_asc (Cert.KernelIdeal.Hand.Wl m ρ c) (Cert.KernelIdeal.Hand.mem_KOps_st5 (Cert.KernelIdeal.Hand.mem_st_5 (List.getElem_mem (l := Cert.KernelIdeal.GenP.hostOps5 (F := Ideal)) (n := 14) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part3 (List.getElem_mem (l := Cert.ReferenceIdeal.Hand.ops_part3 (F := Ideal)) (n := 7) (by decide))) rfl (hy := ⟨by decide, rfl⟩)
  rw [hk, hr]

theorem c_main_v57__main_v156 : StableHlo.after Cert.KernelIdeal.Hand.KOps (Cert.KernelIdeal.Hand.Wl (F := Ideal) m ρ c) (Proc.devRef .tc Cert.KernelIdeal.main_v57) = StableHlo.after (Cert.ReferenceIdeal.Hand.ops (F := Ideal)) (StableHlo.launchContents m' c) (Proc.devRef .tc Cert.ReferenceIdeal.main_v156) := by
  have hk := StableHlo.Ascending.eq_unary Cert.KernelIdeal.Hand.KOps_asc (Cert.KernelIdeal.Hand.Wl m ρ c) (Cert.KernelIdeal.Hand.mem_KOps_st5 (Cert.KernelIdeal.Hand.mem_st_5 (List.getElem_mem (l := Cert.KernelIdeal.GenP.hostOps5 (F := Ideal)) (n := 15) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part3 (List.getElem_mem (l := Cert.ReferenceIdeal.Hand.ops_part3 (F := Ideal)) (n := 8) (by decide))) rfl rfl (by decide) (hx := ⟨by decide, rfl⟩) (hy := ⟨by decide, rfl⟩)
  rw [hk, hr, ← c_main_cst_10__main_cst_30 hag hel]

theorem c_main_v58__main_v157 : StableHlo.after Cert.KernelIdeal.Hand.KOps (Cert.KernelIdeal.Hand.Wl (F := Ideal) m ρ c) (Proc.devRef .tc Cert.KernelIdeal.main_v58) = StableHlo.after (Cert.ReferenceIdeal.Hand.ops (F := Ideal)) (StableHlo.launchContents m' c) (Proc.devRef .tc Cert.ReferenceIdeal.main_v157) := by
  have hk := StableHlo.Ascending.eq_binary Cert.KernelIdeal.Hand.KOps_asc (Cert.KernelIdeal.Hand.Wl m ρ c) (Cert.KernelIdeal.Hand.mem_KOps_st5 (Cert.KernelIdeal.Hand.mem_st_5 (List.getElem_mem (l := Cert.KernelIdeal.GenP.hostOps5 (F := Ideal)) (n := 16) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part3 (List.getElem_mem (l := Cert.ReferenceIdeal.Hand.ops_part3 (F := Ideal)) (n := 9) (by decide))) rfl rfl rfl (by decide) (by decide) (ha := ⟨by decide, rfl⟩) (hb := ⟨by decide, rfl⟩) (hy := ⟨by decide, rfl⟩)
  rw [hk, hr, ← c_main_v57__main_v156 hag hel, ← c_main_v56__main_v155 hag hel]

theorem c_main_v59__main_v158 : StableHlo.after Cert.KernelIdeal.Hand.KOps (Cert.KernelIdeal.Hand.Wl (F := Ideal) m ρ c) (Proc.devRef .tc Cert.KernelIdeal.main_v59) = StableHlo.after (Cert.ReferenceIdeal.Hand.ops (F := Ideal)) (StableHlo.launchContents m' c) (Proc.devRef .tc Cert.ReferenceIdeal.main_v158) := by
  have hk := StableHlo.Ascending.eq_unary Cert.KernelIdeal.Hand.KOps_asc (Cert.KernelIdeal.Hand.Wl m ρ c) (Cert.KernelIdeal.Hand.mem_KOps_st5 (Cert.KernelIdeal.Hand.mem_st_5 (List.getElem_mem (l := Cert.KernelIdeal.GenP.hostOps5 (F := Ideal)) (n := 17) (by decide)))) rfl rfl (by decide) (x := Cert.KernelIdeal.main_arg6) (y := Cert.KernelIdeal.main_v59) (f := open Cert.KernelIdeal Cert.KernelIdeal.Gen in (extractStridedSlice S1x16x16 ![1, 0, 0] · slices_S3x16x16_S1x16x16_1_0_0)) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part3 (List.getElem_mem (l := Cert.ReferenceIdeal.Hand.ops_part3 (F := Ideal)) (n := 10) (by decide))) rfl rfl (by decide) (x := Cert.ReferenceIdeal.main_arg6) (y := Cert.ReferenceIdeal.main_v158) (f := open Cert.ReferenceIdeal Cert.ReferenceIdeal.Gen in (extractStridedSlice S1x16x16 ![1, 0, 0] · slices_S3x16x16_S1x16x16_1_0_0)) (hx := ⟨by decide, rfl⟩) (hy := ⟨by decide, rfl⟩)
  rw [hk, hr, ← c_main_arg6__main_arg6 hag hel]

theorem c_main_v60__main_v159 : StableHlo.after Cert.KernelIdeal.Hand.KOps (Cert.KernelIdeal.Hand.Wl (F := Ideal) m ρ c) (Proc.devRef .tc Cert.KernelIdeal.main_v60) = StableHlo.after (Cert.ReferenceIdeal.Hand.ops (F := Ideal)) (StableHlo.launchContents m' c) (Proc.devRef .tc Cert.ReferenceIdeal.main_v159) := by
  have hk := StableHlo.Ascending.eq_reshape Cert.KernelIdeal.Hand.KOps_asc (Cert.KernelIdeal.Hand.Wl m ρ c) (Cert.KernelIdeal.Hand.mem_KOps_st5 (Cert.KernelIdeal.Hand.mem_st_5 (List.getElem_mem (l := Cert.KernelIdeal.GenP.hostOps5 (F := Ideal)) (n := 18) (by decide)))) rfl rfl (by decide) (x := Cert.KernelIdeal.main_v59) (y := Cert.KernelIdeal.main_v60) (he := rfl) (hn := Cert.KernelIdeal.Gen.shapeCasts_S1x16x16_S16x16) (hx := ⟨by decide, rfl⟩) (hy := ⟨by decide, rfl⟩)
  have hr := StableHlo.Ascending.eq_reshape (Cert.ReferenceIdeal.Hand.ops_asc (F := Ideal)) (StableHlo.launchContents m' c) (Cert.ReferenceIdeal.Hand.mem_ops_part3 (List.getElem_mem (l := Cert.ReferenceIdeal.Hand.ops_part3 (F := Ideal)) (n := 11) (by decide))) rfl rfl (by decide) (x := Cert.ReferenceIdeal.main_v158) (y := Cert.ReferenceIdeal.main_v159) (he := rfl) (hn := Cert.ReferenceIdeal.Gen.shapeCasts_S1x16x16_S16x16) (hx := ⟨by decide, rfl⟩) (hy := ⟨by decide, rfl⟩)
  rw [hk, hr, ← c_main_v59__main_v158 hag hel]
  rfl

theorem c_main_v61__main_v160 : StableHlo.after Cert.KernelIdeal.Hand.KOps (Cert.KernelIdeal.Hand.Wl (F := Ideal) m ρ c) (Proc.devRef .tc Cert.KernelIdeal.main_v61) = StableHlo.after (Cert.ReferenceIdeal.Hand.ops (F := Ideal)) (StableHlo.launchContents m' c) (Proc.devRef .tc Cert.ReferenceIdeal.main_v160) := by
  have hk := StableHlo.Ascending.eq_binary Cert.KernelIdeal.Hand.KOps_asc (Cert.KernelIdeal.Hand.Wl m ρ c) (Cert.KernelIdeal.Hand.mem_KOps_st5 (Cert.KernelIdeal.Hand.mem_st_5 (List.getElem_mem (l := Cert.KernelIdeal.GenP.hostOps5 (F := Ideal)) (n := 19) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part3 (List.getElem_mem (l := Cert.ReferenceIdeal.Hand.ops_part3 (F := Ideal)) (n := 12) (by decide))) rfl rfl rfl (by decide) (by decide) (ha := ⟨by decide, rfl⟩) (hb := ⟨by decide, rfl⟩) (hy := ⟨by decide, rfl⟩)
  rw [hk, hr, ← c_main_v60__main_v159 hag hel, ← c_main_arg5__main_arg5 hag hel]
  rfl

theorem c_main_v62__main_v161 : StableHlo.after Cert.KernelIdeal.Hand.KOps (Cert.KernelIdeal.Hand.Wl (F := Ideal) m ρ c) (Proc.devRef .tc Cert.KernelIdeal.main_v62) = StableHlo.after (Cert.ReferenceIdeal.Hand.ops (F := Ideal)) (StableHlo.launchContents m' c) (Proc.devRef .tc Cert.ReferenceIdeal.main_v161) := by
  have hk := StableHlo.Ascending.eq_unary Cert.KernelIdeal.Hand.KOps_asc (Cert.KernelIdeal.Hand.Wl m ρ c) (Cert.KernelIdeal.Hand.mem_KOps_st5 (Cert.KernelIdeal.Hand.mem_st_5 (List.getElem_mem (l := Cert.KernelIdeal.GenP.hostOps5 (F := Ideal)) (n := 20) (by decide)))) rfl rfl (by decide) (x := Cert.KernelIdeal.main_arg7) (y := Cert.KernelIdeal.main_v62) (f := open Cert.KernelIdeal Cert.KernelIdeal.Gen in (extractStridedSlice S1x16x16 ![1, 0, 0] · slices_S3x16x16_S1x16x16_1_0_0)) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part3 (List.getElem_mem (l := Cert.ReferenceIdeal.Hand.ops_part3 (F := Ideal)) (n := 13) (by decide))) rfl rfl (by decide) (x := Cert.ReferenceIdeal.main_arg7) (y := Cert.ReferenceIdeal.main_v161) (f := open Cert.ReferenceIdeal Cert.ReferenceIdeal.Gen in (extractStridedSlice S1x16x16 ![1, 0, 0] · slices_S3x16x16_S1x16x16_1_0_0)) (hx := ⟨by decide, rfl⟩) (hy := ⟨by decide, rfl⟩)
  rw [hk, hr, ← c_main_arg7__main_arg7 hag hel]

theorem c_main_v63__main_v162 : StableHlo.after Cert.KernelIdeal.Hand.KOps (Cert.KernelIdeal.Hand.Wl (F := Ideal) m ρ c) (Proc.devRef .tc Cert.KernelIdeal.main_v63) = StableHlo.after (Cert.ReferenceIdeal.Hand.ops (F := Ideal)) (StableHlo.launchContents m' c) (Proc.devRef .tc Cert.ReferenceIdeal.main_v162) := by
  have hk := StableHlo.Ascending.eq_reshape Cert.KernelIdeal.Hand.KOps_asc (Cert.KernelIdeal.Hand.Wl m ρ c) (Cert.KernelIdeal.Hand.mem_KOps_st5 (Cert.KernelIdeal.Hand.mem_st_5 (List.getElem_mem (l := Cert.KernelIdeal.GenP.hostOps5 (F := Ideal)) (n := 21) (by decide)))) rfl rfl (by decide) (x := Cert.KernelIdeal.main_v62) (y := Cert.KernelIdeal.main_v63) (he := rfl) (hn := Cert.KernelIdeal.Gen.shapeCasts_S1x16x16_S16x16) (hx := ⟨by decide, rfl⟩) (hy := ⟨by decide, rfl⟩)
  have hr := StableHlo.Ascending.eq_reshape (Cert.ReferenceIdeal.Hand.ops_asc (F := Ideal)) (StableHlo.launchContents m' c) (Cert.ReferenceIdeal.Hand.mem_ops_part3 (List.getElem_mem (l := Cert.ReferenceIdeal.Hand.ops_part3 (F := Ideal)) (n := 14) (by decide))) rfl rfl (by decide) (x := Cert.ReferenceIdeal.main_v161) (y := Cert.ReferenceIdeal.main_v162) (he := rfl) (hn := Cert.ReferenceIdeal.Gen.shapeCasts_S1x16x16_S16x16) (hx := ⟨by decide, rfl⟩) (hy := ⟨by decide, rfl⟩)
  rw [hk, hr, ← c_main_v62__main_v161 hag hel]
  rfl

theorem c_main_v64__main_v163 : StableHlo.after Cert.KernelIdeal.Hand.KOps (Cert.KernelIdeal.Hand.Wl (F := Ideal) m ρ c) (Proc.devRef .tc Cert.KernelIdeal.main_v64) = StableHlo.after (Cert.ReferenceIdeal.Hand.ops (F := Ideal)) (StableHlo.launchContents m' c) (Proc.devRef .tc Cert.ReferenceIdeal.main_v163) := by
  have hk := StableHlo.Ascending.eq_binary Cert.KernelIdeal.Hand.KOps_asc (Cert.KernelIdeal.Hand.Wl m ρ c) (Cert.KernelIdeal.Hand.mem_KOps_st5 (Cert.KernelIdeal.Hand.mem_st_5 (List.getElem_mem (l := Cert.KernelIdeal.GenP.hostOps5 (F := Ideal)) (n := 22) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part3 (List.getElem_mem (l := Cert.ReferenceIdeal.Hand.ops_part3 (F := Ideal)) (n := 15) (by decide))) rfl rfl rfl (by decide) (by decide) (ha := ⟨by decide, rfl⟩) (hb := ⟨by decide, rfl⟩) (hy := ⟨by decide, rfl⟩)
  rw [hk, hr, ← c_main_v63__main_v162 hag hel, ← c_main_arg5__main_arg5 hag hel]
  rfl

theorem c_main_v65__main_v164 : StableHlo.after Cert.KernelIdeal.Hand.KOps (Cert.KernelIdeal.Hand.Wl (F := Ideal) m ρ c) (Proc.devRef .tc Cert.KernelIdeal.main_v65) = StableHlo.after (Cert.ReferenceIdeal.Hand.ops (F := Ideal)) (StableHlo.launchContents m' c) (Proc.devRef .tc Cert.ReferenceIdeal.main_v164) := by
  have hk := StableHlo.Ascending.eq_binary Cert.KernelIdeal.Hand.KOps_asc (Cert.KernelIdeal.Hand.Wl m ρ c) (Cert.KernelIdeal.Hand.mem_KOps_st5 (Cert.KernelIdeal.Hand.mem_st_5 (List.getElem_mem (l := Cert.KernelIdeal.GenP.hostOps5 (F := Ideal)) (n := 23) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part3 (List.getElem_mem (l := Cert.ReferenceIdeal.Hand.ops_part3 (F := Ideal)) (n := 16) (by decide))) rfl rfl rfl (by decide) (by decide) (ha := ⟨by decide, rfl⟩) (hb := ⟨by decide, rfl⟩) (hy := ⟨by decide, rfl⟩)
  rw [hk, hr, ← c_main_v61__main_v160 hag hel, ← c_main_v64__main_v163 hag hel]

theorem c_main_v66__main_v165 : StableHlo.after Cert.KernelIdeal.Hand.KOps (Cert.KernelIdeal.Hand.Wl (F := Ideal) m ρ c) (Proc.devRef .tc Cert.KernelIdeal.main_v66) = StableHlo.after (Cert.ReferenceIdeal.Hand.ops (F := Ideal)) (StableHlo.launchContents m' c) (Proc.devRef .tc Cert.ReferenceIdeal.main_v165) := by
  have hk := StableHlo.Ascending.eq_unary Cert.KernelIdeal.Hand.KOps_asc (Cert.KernelIdeal.Hand.Wl m ρ c) (Cert.KernelIdeal.Hand.mem_KOps_st5 (Cert.KernelIdeal.Hand.mem_st_5 (List.getElem_mem (l := Cert.KernelIdeal.GenP.hostOps5 (F := Ideal)) (n := 24) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part3 (List.getElem_mem (l := Cert.ReferenceIdeal.Hand.ops_part3 (F := Ideal)) (n := 17) (by decide))) rfl rfl (by decide) (hx := ⟨by decide, rfl⟩) (hy := ⟨by decide, rfl⟩)
  rw [hk, hr, ← c_main_v65__main_v164 hag hel]

theorem c_main_v67__main_v166 : StableHlo.after Cert.KernelIdeal.Hand.KOps (Cert.KernelIdeal.Hand.Wl (F := Ideal) m ρ c) (Proc.devRef .tc Cert.KernelIdeal.main_v67) = StableHlo.after (Cert.ReferenceIdeal.Hand.ops (F := Ideal)) (StableHlo.launchContents m' c) (Proc.devRef .tc Cert.ReferenceIdeal.main_v166) := by
  have hk := StableHlo.Ascending.eq_unary Cert.KernelIdeal.Hand.KOps_asc (Cert.KernelIdeal.Hand.Wl m ρ c) (Cert.KernelIdeal.Hand.mem_KOps_st5 (Cert.KernelIdeal.Hand.mem_st_5 (List.getElem_mem (l := Cert.KernelIdeal.GenP.hostOps5 (F := Ideal)) (n := 25) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part3 (List.getElem_mem (l := Cert.ReferenceIdeal.Hand.ops_part3 (F := Ideal)) (n := 18) (by decide))) rfl rfl (by decide) (hx := ⟨by decide, rfl⟩) (hy := ⟨by decide, rfl⟩)
  rw [hk, hr, ← c_main_v66__main_v165 hag hel]

theorem c_main_cst_11__main_cst_31 : StableHlo.after Cert.KernelIdeal.Hand.KOps (Cert.KernelIdeal.Hand.Wl (F := Ideal) m ρ c) (Proc.devRef .tc Cert.KernelIdeal.main_cst_11) = StableHlo.after (Cert.ReferenceIdeal.Hand.ops (F := Ideal)) (StableHlo.launchContents m' c) (Proc.devRef .tc Cert.ReferenceIdeal.main_cst_31) := by
  have hk := StableHlo.Ascending.eq_nullary Cert.KernelIdeal.Hand.KOps_asc (Cert.KernelIdeal.Hand.Wl m ρ c) (Cert.KernelIdeal.Hand.mem_KOps_st5 (Cert.KernelIdeal.Hand.mem_st_5 (List.getElem_mem (l := Cert.KernelIdeal.GenP.hostOps5 (F := Ideal)) (n := 26) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part3 (List.getElem_mem (l := Cert.ReferenceIdeal.Hand.ops_part3 (F := Ideal)) (n := 19) (by decide))) rfl (hy := ⟨by decide, rfl⟩)
  rw [hk, hr]

theorem c_main_v68__main_v167 : StableHlo.after Cert.KernelIdeal.Hand.KOps (Cert.KernelIdeal.Hand.Wl (F := Ideal) m ρ c) (Proc.devRef .tc Cert.KernelIdeal.main_v68) = StableHlo.after (Cert.ReferenceIdeal.Hand.ops (F := Ideal)) (StableHlo.launchContents m' c) (Proc.devRef .tc Cert.ReferenceIdeal.main_v167) := by
  have hk := StableHlo.Ascending.eq_unary Cert.KernelIdeal.Hand.KOps_asc (Cert.KernelIdeal.Hand.Wl m ρ c) (Cert.KernelIdeal.Hand.mem_KOps_st5 (Cert.KernelIdeal.Hand.mem_st_5 (List.getElem_mem (l := Cert.KernelIdeal.GenP.hostOps5 (F := Ideal)) (n := 27) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part3 (List.getElem_mem (l := Cert.ReferenceIdeal.Hand.ops_part3 (F := Ideal)) (n := 20) (by decide))) rfl rfl (by decide) (hx := ⟨by decide, rfl⟩) (hy := ⟨by decide, rfl⟩)
  rw [hk, hr, ← c_main_cst_11__main_cst_31 hag hel]

theorem c_main_v69__main_v168 : StableHlo.after Cert.KernelIdeal.Hand.KOps (Cert.KernelIdeal.Hand.Wl (F := Ideal) m ρ c) (Proc.devRef .tc Cert.KernelIdeal.main_v69) = StableHlo.after (Cert.ReferenceIdeal.Hand.ops (F := Ideal)) (StableHlo.launchContents m' c) (Proc.devRef .tc Cert.ReferenceIdeal.main_v168) := by
  have hk := StableHlo.Ascending.eq_binary Cert.KernelIdeal.Hand.KOps_asc (Cert.KernelIdeal.Hand.Wl m ρ c) (Cert.KernelIdeal.Hand.mem_KOps_st5 (Cert.KernelIdeal.Hand.mem_st_5 (List.getElem_mem (l := Cert.KernelIdeal.GenP.hostOps5 (F := Ideal)) (n := 28) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part3 (List.getElem_mem (l := Cert.ReferenceIdeal.Hand.ops_part3 (F := Ideal)) (n := 21) (by decide))) rfl rfl rfl (by decide) (by decide) (ha := ⟨by decide, rfl⟩) (hb := ⟨by decide, rfl⟩) (hy := ⟨by decide, rfl⟩)
  rw [hk, hr, ← c_main_v68__main_v167 hag hel, ← c_main_v67__main_v166 hag hel]

theorem c_main_cst_12__main_cst_32 : StableHlo.after Cert.KernelIdeal.Hand.KOps (Cert.KernelIdeal.Hand.Wl (F := Ideal) m ρ c) (Proc.devRef .tc Cert.KernelIdeal.main_cst_12) = StableHlo.after (Cert.ReferenceIdeal.Hand.ops (F := Ideal)) (StableHlo.launchContents m' c) (Proc.devRef .tc Cert.ReferenceIdeal.main_cst_32) := by
  have hk := StableHlo.Ascending.eq_nullary Cert.KernelIdeal.Hand.KOps_asc (Cert.KernelIdeal.Hand.Wl m ρ c) (Cert.KernelIdeal.Hand.mem_KOps_st5 (Cert.KernelIdeal.Hand.mem_st_5 (List.getElem_mem (l := Cert.KernelIdeal.GenP.hostOps5 (F := Ideal)) (n := 29) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part3 (List.getElem_mem (l := Cert.ReferenceIdeal.Hand.ops_part3 (F := Ideal)) (n := 22) (by decide))) rfl (hy := ⟨by decide, rfl⟩)
  rw [hk, hr]

theorem c_main_v70__main_v169 : StableHlo.after Cert.KernelIdeal.Hand.KOps (Cert.KernelIdeal.Hand.Wl (F := Ideal) m ρ c) (Proc.devRef .tc Cert.KernelIdeal.main_v70) = StableHlo.after (Cert.ReferenceIdeal.Hand.ops (F := Ideal)) (StableHlo.launchContents m' c) (Proc.devRef .tc Cert.ReferenceIdeal.main_v169) := by
  have hk := StableHlo.Ascending.eq_unary Cert.KernelIdeal.Hand.KOps_asc (Cert.KernelIdeal.Hand.Wl m ρ c) (Cert.KernelIdeal.Hand.mem_KOps_st5 (Cert.KernelIdeal.Hand.mem_st_5 (List.getElem_mem (l := Cert.KernelIdeal.GenP.hostOps5 (F := Ideal)) (n := 30) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part3 (List.getElem_mem (l := Cert.ReferenceIdeal.Hand.ops_part3 (F := Ideal)) (n := 23) (by decide))) rfl rfl (by decide) (hx := ⟨by decide, rfl⟩) (hy := ⟨by decide, rfl⟩)
  rw [hk, hr, ← c_main_cst_12__main_cst_32 hag hel]

theorem c_main_v71__main_v170 : StableHlo.after Cert.KernelIdeal.Hand.KOps (Cert.KernelIdeal.Hand.Wl (F := Ideal) m ρ c) (Proc.devRef .tc Cert.KernelIdeal.main_v71) = StableHlo.after (Cert.ReferenceIdeal.Hand.ops (F := Ideal)) (StableHlo.launchContents m' c) (Proc.devRef .tc Cert.ReferenceIdeal.main_v170) := by
  have hk := StableHlo.Ascending.eq_binary Cert.KernelIdeal.Hand.KOps_asc (Cert.KernelIdeal.Hand.Wl m ρ c) (Cert.KernelIdeal.Hand.mem_KOps_st5 (Cert.KernelIdeal.Hand.mem_st_5 (List.getElem_mem (l := Cert.KernelIdeal.GenP.hostOps5 (F := Ideal)) (n := 31) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part3 (List.getElem_mem (l := Cert.ReferenceIdeal.Hand.ops_part3 (F := Ideal)) (n := 24) (by decide))) rfl rfl rfl (by decide) (by decide) (ha := ⟨by decide, rfl⟩) (hb := ⟨by decide, rfl⟩) (hy := ⟨by decide, rfl⟩)
  rw [hk, hr, ← c_main_v70__main_v169 hag hel, ← c_main_v69__main_v168 hag hel]

theorem c_main_v72__main_v171 : StableHlo.after Cert.KernelIdeal.Hand.KOps (Cert.KernelIdeal.Hand.Wl (F := Ideal) m ρ c) (Proc.devRef .tc Cert.KernelIdeal.main_v72) = StableHlo.after (Cert.ReferenceIdeal.Hand.ops (F := Ideal)) (StableHlo.launchContents m' c) (Proc.devRef .tc Cert.ReferenceIdeal.main_v171) := by
  have hk := StableHlo.Ascending.eq_unary Cert.KernelIdeal.Hand.KOps_asc (Cert.KernelIdeal.Hand.Wl m ρ c) (Cert.KernelIdeal.Hand.mem_KOps_st5 (Cert.KernelIdeal.Hand.mem_st_5 (List.getElem_mem (l := Cert.KernelIdeal.GenP.hostOps5 (F := Ideal)) (n := 32) (by decide)))) rfl rfl (by decide) (x := Cert.KernelIdeal.main_arg6) (y := Cert.KernelIdeal.main_v72) (f := open Cert.KernelIdeal Cert.KernelIdeal.Gen in (extractStridedSlice S1x16x16 ![2, 0, 0] · slices_S3x16x16_S1x16x16_2_0_0)) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part3 (List.getElem_mem (l := Cert.ReferenceIdeal.Hand.ops_part3 (F := Ideal)) (n := 25) (by decide))) rfl rfl (by decide) (x := Cert.ReferenceIdeal.main_arg6) (y := Cert.ReferenceIdeal.main_v171) (f := open Cert.ReferenceIdeal Cert.ReferenceIdeal.Gen in (extractStridedSlice S1x16x16 ![2, 0, 0] · slices_S3x16x16_S1x16x16_2_0_0)) (hx := ⟨by decide, rfl⟩) (hy := ⟨by decide, rfl⟩)
  rw [hk, hr, ← c_main_arg6__main_arg6 hag hel]

theorem c_main_v73__main_v172 : StableHlo.after Cert.KernelIdeal.Hand.KOps (Cert.KernelIdeal.Hand.Wl (F := Ideal) m ρ c) (Proc.devRef .tc Cert.KernelIdeal.main_v73) = StableHlo.after (Cert.ReferenceIdeal.Hand.ops (F := Ideal)) (StableHlo.launchContents m' c) (Proc.devRef .tc Cert.ReferenceIdeal.main_v172) := by
  have hk := StableHlo.Ascending.eq_reshape Cert.KernelIdeal.Hand.KOps_asc (Cert.KernelIdeal.Hand.Wl m ρ c) (Cert.KernelIdeal.Hand.mem_KOps_st5 (Cert.KernelIdeal.Hand.mem_st_5 (List.getElem_mem (l := Cert.KernelIdeal.GenP.hostOps5 (F := Ideal)) (n := 33) (by decide)))) rfl rfl (by decide) (x := Cert.KernelIdeal.main_v72) (y := Cert.KernelIdeal.main_v73) (he := rfl) (hn := Cert.KernelIdeal.Gen.shapeCasts_S1x16x16_S16x16) (hx := ⟨by decide, rfl⟩) (hy := ⟨by decide, rfl⟩)
  have hr := StableHlo.Ascending.eq_reshape (Cert.ReferenceIdeal.Hand.ops_asc (F := Ideal)) (StableHlo.launchContents m' c) (Cert.ReferenceIdeal.Hand.mem_ops_part3 (List.getElem_mem (l := Cert.ReferenceIdeal.Hand.ops_part3 (F := Ideal)) (n := 26) (by decide))) rfl rfl (by decide) (x := Cert.ReferenceIdeal.main_v171) (y := Cert.ReferenceIdeal.main_v172) (he := rfl) (hn := Cert.ReferenceIdeal.Gen.shapeCasts_S1x16x16_S16x16) (hx := ⟨by decide, rfl⟩) (hy := ⟨by decide, rfl⟩)
  rw [hk, hr, ← c_main_v72__main_v171 hag hel]
  rfl

theorem c_main_v74__main_v173 : StableHlo.after Cert.KernelIdeal.Hand.KOps (Cert.KernelIdeal.Hand.Wl (F := Ideal) m ρ c) (Proc.devRef .tc Cert.KernelIdeal.main_v74) = StableHlo.after (Cert.ReferenceIdeal.Hand.ops (F := Ideal)) (StableHlo.launchContents m' c) (Proc.devRef .tc Cert.ReferenceIdeal.main_v173) := by
  have hk := StableHlo.Ascending.eq_binary Cert.KernelIdeal.Hand.KOps_asc (Cert.KernelIdeal.Hand.Wl m ρ c) (Cert.KernelIdeal.Hand.mem_KOps_st5 (Cert.KernelIdeal.Hand.mem_st_5 (List.getElem_mem (l := Cert.KernelIdeal.GenP.hostOps5 (F := Ideal)) (n := 34) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part3 (List.getElem_mem (l := Cert.ReferenceIdeal.Hand.ops_part3 (F := Ideal)) (n := 27) (by decide))) rfl rfl rfl (by decide) (by decide) (ha := ⟨by decide, rfl⟩) (hb := ⟨by decide, rfl⟩) (hy := ⟨by decide, rfl⟩)
  rw [hk, hr, ← c_main_v73__main_v172 hag hel, ← c_main_arg5__main_arg5 hag hel]
  rfl

theorem c_main_v75__main_v174 : StableHlo.after Cert.KernelIdeal.Hand.KOps (Cert.KernelIdeal.Hand.Wl (F := Ideal) m ρ c) (Proc.devRef .tc Cert.KernelIdeal.main_v75) = StableHlo.after (Cert.ReferenceIdeal.Hand.ops (F := Ideal)) (StableHlo.launchContents m' c) (Proc.devRef .tc Cert.ReferenceIdeal.main_v174) := by
  have hk := StableHlo.Ascending.eq_unary Cert.KernelIdeal.Hand.KOps_asc (Cert.KernelIdeal.Hand.Wl m ρ c) (Cert.KernelIdeal.Hand.mem_KOps_st5 (Cert.KernelIdeal.Hand.mem_st_5 (List.getElem_mem (l := Cert.KernelIdeal.GenP.hostOps5 (F := Ideal)) (n := 35) (by decide)))) rfl rfl (by decide) (x := Cert.KernelIdeal.main_arg7) (y := Cert.KernelIdeal.main_v75) (f := open Cert.KernelIdeal Cert.KernelIdeal.Gen in (extractStridedSlice S1x16x16 ![2, 0, 0] · slices_S3x16x16_S1x16x16_2_0_0)) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part3 (List.getElem_mem (l := Cert.ReferenceIdeal.Hand.ops_part3 (F := Ideal)) (n := 28) (by decide))) rfl rfl (by decide) (x := Cert.ReferenceIdeal.main_arg7) (y := Cert.ReferenceIdeal.main_v174) (f := open Cert.ReferenceIdeal Cert.ReferenceIdeal.Gen in (extractStridedSlice S1x16x16 ![2, 0, 0] · slices_S3x16x16_S1x16x16_2_0_0)) (hx := ⟨by decide, rfl⟩) (hy := ⟨by decide, rfl⟩)
  rw [hk, hr, ← c_main_arg7__main_arg7 hag hel]

theorem c_main_v76__main_v175 : StableHlo.after Cert.KernelIdeal.Hand.KOps (Cert.KernelIdeal.Hand.Wl (F := Ideal) m ρ c) (Proc.devRef .tc Cert.KernelIdeal.main_v76) = StableHlo.after (Cert.ReferenceIdeal.Hand.ops (F := Ideal)) (StableHlo.launchContents m' c) (Proc.devRef .tc Cert.ReferenceIdeal.main_v175) := by
  have hk := StableHlo.Ascending.eq_reshape Cert.KernelIdeal.Hand.KOps_asc (Cert.KernelIdeal.Hand.Wl m ρ c) (Cert.KernelIdeal.Hand.mem_KOps_st5 (Cert.KernelIdeal.Hand.mem_st_5 (List.getElem_mem (l := Cert.KernelIdeal.GenP.hostOps5 (F := Ideal)) (n := 36) (by decide)))) rfl rfl (by decide) (x := Cert.KernelIdeal.main_v75) (y := Cert.KernelIdeal.main_v76) (he := rfl) (hn := Cert.KernelIdeal.Gen.shapeCasts_S1x16x16_S16x16) (hx := ⟨by decide, rfl⟩) (hy := ⟨by decide, rfl⟩)
  have hr := StableHlo.Ascending.eq_reshape (Cert.ReferenceIdeal.Hand.ops_asc (F := Ideal)) (StableHlo.launchContents m' c) (Cert.ReferenceIdeal.Hand.mem_ops_part3 (List.getElem_mem (l := Cert.ReferenceIdeal.Hand.ops_part3 (F := Ideal)) (n := 29) (by decide))) rfl rfl (by decide) (x := Cert.ReferenceIdeal.main_v174) (y := Cert.ReferenceIdeal.main_v175) (he := rfl) (hn := Cert.ReferenceIdeal.Gen.shapeCasts_S1x16x16_S16x16) (hx := ⟨by decide, rfl⟩) (hy := ⟨by decide, rfl⟩)
  rw [hk, hr, ← c_main_v75__main_v174 hag hel]
  rfl

theorem c_main_v77__main_v176 : StableHlo.after Cert.KernelIdeal.Hand.KOps (Cert.KernelIdeal.Hand.Wl (F := Ideal) m ρ c) (Proc.devRef .tc Cert.KernelIdeal.main_v77) = StableHlo.after (Cert.ReferenceIdeal.Hand.ops (F := Ideal)) (StableHlo.launchContents m' c) (Proc.devRef .tc Cert.ReferenceIdeal.main_v176) := by
  have hk := StableHlo.Ascending.eq_binary Cert.KernelIdeal.Hand.KOps_asc (Cert.KernelIdeal.Hand.Wl m ρ c) (Cert.KernelIdeal.Hand.mem_KOps_st5 (Cert.KernelIdeal.Hand.mem_st_5 (List.getElem_mem (l := Cert.KernelIdeal.GenP.hostOps5 (F := Ideal)) (n := 37) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part3 (List.getElem_mem (l := Cert.ReferenceIdeal.Hand.ops_part3 (F := Ideal)) (n := 30) (by decide))) rfl rfl rfl (by decide) (by decide) (ha := ⟨by decide, rfl⟩) (hb := ⟨by decide, rfl⟩) (hy := ⟨by decide, rfl⟩)
  rw [hk, hr, ← c_main_v71__main_v170 hag hel, ← c_main_arg5__main_arg5 hag hel]

theorem c_main_v78__main_v177 : StableHlo.after Cert.KernelIdeal.Hand.KOps (Cert.KernelIdeal.Hand.Wl (F := Ideal) m ρ c) (Proc.devRef .tc Cert.KernelIdeal.main_v78) = StableHlo.after (Cert.ReferenceIdeal.Hand.ops (F := Ideal)) (StableHlo.launchContents m' c) (Proc.devRef .tc Cert.ReferenceIdeal.main_v177) := by
  have hk := StableHlo.Ascending.eq_binary Cert.KernelIdeal.Hand.KOps_asc (Cert.KernelIdeal.Hand.Wl m ρ c) (Cert.KernelIdeal.Hand.mem_KOps_st5 (Cert.KernelIdeal.Hand.mem_st_5 (List.getElem_mem (l := Cert.KernelIdeal.GenP.hostOps5 (F := Ideal)) (n := 38) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part3 (List.getElem_mem (l := Cert.ReferenceIdeal.Hand.ops_part3 (F := Ideal)) (n := 31) (by decide))) rfl rfl rfl (by decide) (by decide) (ha := ⟨by decide, rfl⟩) (hb := ⟨by decide, rfl⟩) (hy := ⟨by decide, rfl⟩)
  rw [hk, hr, ← c_main_v76__main_v175 hag hel, ← c_main_v77__main_v176 hag hel]
  rfl

theorem c_main_v79__main_v178 : StableHlo.after Cert.KernelIdeal.Hand.KOps (Cert.KernelIdeal.Hand.Wl (F := Ideal) m ρ c) (Proc.devRef .tc Cert.KernelIdeal.main_v79) = StableHlo.after (Cert.ReferenceIdeal.Hand.ops (F := Ideal)) (StableHlo.launchContents m' c) (Proc.devRef .tc Cert.ReferenceIdeal.main_v178) := by
  have hk := StableHlo.Ascending.eq_binary Cert.KernelIdeal.Hand.KOps_asc (Cert.KernelIdeal.Hand.Wl m ρ c) (Cert.KernelIdeal.Hand.mem_KOps_st5 (Cert.KernelIdeal.Hand.mem_st_5 (List.getElem_mem (l := Cert.KernelIdeal.GenP.hostOps5 (F := Ideal)) (n := 39) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part3 (List.getElem_mem (l := Cert.ReferenceIdeal.Hand.ops_part3 (F := Ideal)) (n := 32) (by decide))) rfl rfl rfl (by decide) (by decide) (ha := ⟨by decide, rfl⟩) (hb := ⟨by decide, rfl⟩) (hy := ⟨by decide, rfl⟩)
  rw [hk, hr, ← c_main_v74__main_v173 hag hel, ← c_main_v78__main_v177 hag hel]

theorem c_main_v80__main_v179 : StableHlo.after Cert.KernelIdeal.Hand.KOps (Cert.KernelIdeal.Hand.Wl (F := Ideal) m ρ c) (Proc.devRef .tc Cert.KernelIdeal.main_v80) = StableHlo.after (Cert.ReferenceIdeal.Hand.ops (F := Ideal)) (StableHlo.launchContents m' c) (Proc.devRef .tc Cert.ReferenceIdeal.main_v179) := by
  have hk := StableHlo.Ascending.eq_unary Cert.KernelIdeal.Hand.KOps_asc (Cert.KernelIdeal.Hand.Wl m ρ c) (Cert.KernelIdeal.Hand.mem_KOps_st5 (Cert.KernelIdeal.Hand.mem_st_5 (List.getElem_mem (l := Cert.KernelIdeal.GenP.hostOps5 (F := Ideal)) (n := 40) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part3 (List.getElem_mem (l := Cert.ReferenceIdeal.Hand.ops_part3 (F := Ideal)) (n := 33) (by decide))) rfl rfl (by decide) (hx := ⟨by decide, rfl⟩) (hy := ⟨by decide, rfl⟩)
  rw [hk, hr, ← c_main_v79__main_v178 hag hel]

theorem c_main_cst_13__main_cst_33 : StableHlo.after Cert.KernelIdeal.Hand.KOps (Cert.KernelIdeal.Hand.Wl (F := Ideal) m ρ c) (Proc.devRef .tc Cert.KernelIdeal.main_cst_13) = StableHlo.after (Cert.ReferenceIdeal.Hand.ops (F := Ideal)) (StableHlo.launchContents m' c) (Proc.devRef .tc Cert.ReferenceIdeal.main_cst_33) := by
  have hk := StableHlo.Ascending.eq_nullary Cert.KernelIdeal.Hand.KOps_asc (Cert.KernelIdeal.Hand.Wl m ρ c) (Cert.KernelIdeal.Hand.mem_KOps_st5 (Cert.KernelIdeal.Hand.mem_st_5 (List.getElem_mem (l := Cert.KernelIdeal.GenP.hostOps5 (F := Ideal)) (n := 41) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part3 (List.getElem_mem (l := Cert.ReferenceIdeal.Hand.ops_part3 (F := Ideal)) (n := 34) (by decide))) rfl (hy := ⟨by decide, rfl⟩)
  rw [hk, hr]

theorem c_main_v81__main_v180 : StableHlo.after Cert.KernelIdeal.Hand.KOps (Cert.KernelIdeal.Hand.Wl (F := Ideal) m ρ c) (Proc.devRef .tc Cert.KernelIdeal.main_v81) = StableHlo.after (Cert.ReferenceIdeal.Hand.ops (F := Ideal)) (StableHlo.launchContents m' c) (Proc.devRef .tc Cert.ReferenceIdeal.main_v180) := by
  have hk := StableHlo.Ascending.eq_unary Cert.KernelIdeal.Hand.KOps_asc (Cert.KernelIdeal.Hand.Wl m ρ c) (Cert.KernelIdeal.Hand.mem_KOps_st5 (Cert.KernelIdeal.Hand.mem_st_5 (List.getElem_mem (l := Cert.KernelIdeal.GenP.hostOps5 (F := Ideal)) (n := 42) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part3 (List.getElem_mem (l := Cert.ReferenceIdeal.Hand.ops_part3 (F := Ideal)) (n := 35) (by decide))) rfl rfl (by decide) (hx := ⟨by decide, rfl⟩) (hy := ⟨by decide, rfl⟩)
  rw [hk, hr, ← c_main_cst_13__main_cst_33 hag hel]

theorem c_main_v82__main_v181 : StableHlo.after Cert.KernelIdeal.Hand.KOps (Cert.KernelIdeal.Hand.Wl (F := Ideal) m ρ c) (Proc.devRef .tc Cert.KernelIdeal.main_v82) = StableHlo.after (Cert.ReferenceIdeal.Hand.ops (F := Ideal)) (StableHlo.launchContents m' c) (Proc.devRef .tc Cert.ReferenceIdeal.main_v181) := by
  have hk := StableHlo.Ascending.eq_binary Cert.KernelIdeal.Hand.KOps_asc (Cert.KernelIdeal.Hand.Wl m ρ c) (Cert.KernelIdeal.Hand.mem_KOps_st5 (Cert.KernelIdeal.Hand.mem_st_5 (List.getElem_mem (l := Cert.KernelIdeal.GenP.hostOps5 (F := Ideal)) (n := 43) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part3 (List.getElem_mem (l := Cert.ReferenceIdeal.Hand.ops_part3 (F := Ideal)) (n := 36) (by decide))) rfl rfl rfl (by decide) (by decide) (ha := ⟨by decide, rfl⟩) (hb := ⟨by decide, rfl⟩) (hy := ⟨by decide, rfl⟩)
  rw [hk, hr, ← c_main_v81__main_v180 hag hel, ← c_main_v58__main_v157 hag hel]

theorem c_main_v83__main_v182 : StableHlo.after Cert.KernelIdeal.Hand.KOps (Cert.KernelIdeal.Hand.Wl (F := Ideal) m ρ c) (Proc.devRef .tc Cert.KernelIdeal.main_v83) = StableHlo.after (Cert.ReferenceIdeal.Hand.ops (F := Ideal)) (StableHlo.launchContents m' c) (Proc.devRef .tc Cert.ReferenceIdeal.main_v182) := by
  have hk := StableHlo.Ascending.eq_binary Cert.KernelIdeal.Hand.KOps_asc (Cert.KernelIdeal.Hand.Wl m ρ c) (Cert.KernelIdeal.Hand.mem_KOps_st5 (Cert.KernelIdeal.Hand.mem_st_5 (List.getElem_mem (l := Cert.KernelIdeal.GenP.hostOps5 (F := Ideal)) (n := 44) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part3 (List.getElem_mem (l := Cert.ReferenceIdeal.Hand.ops_part3 (F := Ideal)) (n := 37) (by decide))) rfl rfl rfl (by decide) (by decide) (ha := ⟨by decide, rfl⟩) (hb := ⟨by decide, rfl⟩) (hy := ⟨by decide, rfl⟩)
  rw [hk, hr, ← c_main_v82__main_v181 hag hel, ← c_main_arg5__main_arg5 hag hel]

theorem c_main_v84__main_v183 : StableHlo.after Cert.KernelIdeal.Hand.KOps (Cert.KernelIdeal.Hand.Wl (F := Ideal) m ρ c) (Proc.devRef .tc Cert.KernelIdeal.main_v84) = StableHlo.after (Cert.ReferenceIdeal.Hand.ops (F := Ideal)) (StableHlo.launchContents m' c) (Proc.devRef .tc Cert.ReferenceIdeal.main_v183) := by
  have hk := StableHlo.Ascending.eq_binary Cert.KernelIdeal.Hand.KOps_asc (Cert.KernelIdeal.Hand.Wl m ρ c) (Cert.KernelIdeal.Hand.mem_KOps_st5 (Cert.KernelIdeal.Hand.mem_st_5 (List.getElem_mem (l := Cert.KernelIdeal.GenP.hostOps5 (F := Ideal)) (n := 45) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part3 (List.getElem_mem (l := Cert.ReferenceIdeal.Hand.ops_part3 (F := Ideal)) (n := 38) (by decide))) rfl rfl rfl (by decide) (by decide) (ha := ⟨by decide, rfl⟩) (hb := ⟨by decide, rfl⟩) (hy := ⟨by decide, rfl⟩)
  rw [hk, hr, ← c_main_v58__main_v157 hag hel, ← c_main_v80__main_v179 hag hel]

theorem c_main_v85__main_v184 : StableHlo.after Cert.KernelIdeal.Hand.KOps (Cert.KernelIdeal.Hand.Wl (F := Ideal) m ρ c) (Proc.devRef .tc Cert.KernelIdeal.main_v85) = StableHlo.after (Cert.ReferenceIdeal.Hand.ops (F := Ideal)) (StableHlo.launchContents m' c) (Proc.devRef .tc Cert.ReferenceIdeal.main_v184) := by
  have hk := StableHlo.Ascending.eq_binary Cert.KernelIdeal.Hand.KOps_asc (Cert.KernelIdeal.Hand.Wl m ρ c) (Cert.KernelIdeal.Hand.mem_KOps_st5 (Cert.KernelIdeal.Hand.mem_st_5 (List.getElem_mem (l := Cert.KernelIdeal.GenP.hostOps5 (F := Ideal)) (n := 46) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part3 (List.getElem_mem (l := Cert.ReferenceIdeal.Hand.ops_part3 (F := Ideal)) (n := 39) (by decide))) rfl rfl rfl (by decide) (by decide) (ha := ⟨by decide, rfl⟩) (hb := ⟨by decide, rfl⟩) (hy := ⟨by decide, rfl⟩)
  rw [hk, hr, ← c_main_v83__main_v182 hag hel, ← c_main_v84__main_v183 hag hel]

theorem c_main_v86__main_v682 : StableHlo.after Cert.KernelIdeal.Hand.KOps (Cert.KernelIdeal.Hand.Wl (F := Ideal) m ρ c) (Proc.devRef .tc Cert.KernelIdeal.main_v86) = StableHlo.after (Cert.ReferenceIdeal.Hand.ops (F := Ideal)) (StableHlo.launchContents m' c) (Proc.devRef .tc Cert.ReferenceIdeal.main_v682) := by
  have hk := StableHlo.Ascending.eq_unary Cert.KernelIdeal.Hand.KOps_asc (Cert.KernelIdeal.Hand.Wl m ρ c) (Cert.KernelIdeal.Hand.mem_KOps_st5 (Cert.KernelIdeal.Hand.mem_st_5 (List.getElem_mem (l := Cert.KernelIdeal.GenP.hostOps5 (F := Ideal)) (n := 47) (by decide)))) rfl rfl (by decide) (x := Cert.KernelIdeal.main_arg6) (y := Cert.KernelIdeal.main_v86) (f := open Cert.KernelIdeal Cert.KernelIdeal.Gen in (extractStridedSlice S1x16x16 ![0, 0, 0] · slices_S3x16x16_S1x16x16_0_0_0)) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part13 (List.getElem_mem (l := Cert.ReferenceIdeal.Hand.ops_part13 (F := Ideal)) (n := 71) (by decide))) rfl rfl (by decide) (x := Cert.ReferenceIdeal.main_arg6) (y := Cert.ReferenceIdeal.main_v682) (f := open Cert.ReferenceIdeal Cert.ReferenceIdeal.Gen in (extractStridedSlice S1x16x16 ![0, 0, 0] · slices_S3x16x16_S1x16x16_0_0_0)) (hx := ⟨by decide, rfl⟩) (hy := ⟨by decide, rfl⟩)
  rw [hk, hr, ← c_main_arg6__main_arg6 hag hel]

theorem c_main_v87__main_v683 : StableHlo.after Cert.KernelIdeal.Hand.KOps (Cert.KernelIdeal.Hand.Wl (F := Ideal) m ρ c) (Proc.devRef .tc Cert.KernelIdeal.main_v87) = StableHlo.after (Cert.ReferenceIdeal.Hand.ops (F := Ideal)) (StableHlo.launchContents m' c) (Proc.devRef .tc Cert.ReferenceIdeal.main_v683) := by
  have hk := StableHlo.Ascending.eq_reshape Cert.KernelIdeal.Hand.KOps_asc (Cert.KernelIdeal.Hand.Wl m ρ c) (Cert.KernelIdeal.Hand.mem_KOps_st5 (Cert.KernelIdeal.Hand.mem_st_5 (List.getElem_mem (l := Cert.KernelIdeal.GenP.hostOps5 (F := Ideal)) (n := 48) (by decide)))) rfl rfl (by decide) (x := Cert.KernelIdeal.main_v86) (y := Cert.KernelIdeal.main_v87) (he := rfl) (hn := Cert.KernelIdeal.Gen.shapeCasts_S1x16x16_S16x16) (hx := ⟨by decide, rfl⟩) (hy := ⟨by decide, rfl⟩)
  have hr := StableHlo.Ascending.eq_reshape (Cert.ReferenceIdeal.Hand.ops_asc (F := Ideal)) (StableHlo.launchContents m' c) (Cert.ReferenceIdeal.Hand.mem_ops_part13 (List.getElem_mem (l := Cert.ReferenceIdeal.Hand.ops_part13 (F := Ideal)) (n := 72) (by decide))) rfl rfl (by decide) (x := Cert.ReferenceIdeal.main_v682) (y := Cert.ReferenceIdeal.main_v683) (he := rfl) (hn := Cert.ReferenceIdeal.Gen.shapeCasts_S1x16x16_S16x16) (hx := ⟨by decide, rfl⟩) (hy := ⟨by decide, rfl⟩)
  rw [hk, hr, ← c_main_v86__main_v682 hag hel]
  rfl

theorem c_main_v88__main_v684 : StableHlo.after Cert.KernelIdeal.Hand.KOps (Cert.KernelIdeal.Hand.Wl (F := Ideal) m ρ c) (Proc.devRef .tc Cert.KernelIdeal.main_v88) = StableHlo.after (Cert.ReferenceIdeal.Hand.ops (F := Ideal)) (StableHlo.launchContents m' c) (Proc.devRef .tc Cert.ReferenceIdeal.main_v684) := by
  have hk := StableHlo.Ascending.eq_binary Cert.KernelIdeal.Hand.KOps_asc (Cert.KernelIdeal.Hand.Wl m ρ c) (Cert.KernelIdeal.Hand.mem_KOps_st5 (Cert.KernelIdeal.Hand.mem_st_5 (List.getElem_mem (l := Cert.KernelIdeal.GenP.hostOps5 (F := Ideal)) (n := 49) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part13 (List.getElem_mem (l := Cert.ReferenceIdeal.Hand.ops_part13 (F := Ideal)) (n := 73) (by decide))) rfl rfl rfl (by decide) (by decide) (ha := ⟨by decide, rfl⟩) (hb := ⟨by decide, rfl⟩) (hy := ⟨by decide, rfl⟩)
  rw [hk, hr, ← c_main_v87__main_v683 hag hel, ← c_main_v85__main_v184 hag hel]
  rfl

theorem c_main_v89__main_v685 : StableHlo.after Cert.KernelIdeal.Hand.KOps (Cert.KernelIdeal.Hand.Wl (F := Ideal) m ρ c) (Proc.devRef .tc Cert.KernelIdeal.main_v89) = StableHlo.after (Cert.ReferenceIdeal.Hand.ops (F := Ideal)) (StableHlo.launchContents m' c) (Proc.devRef .tc Cert.ReferenceIdeal.main_v685) := by
  have hk := StableHlo.Ascending.eq_unary Cert.KernelIdeal.Hand.KOps_asc (Cert.KernelIdeal.Hand.Wl m ρ c) (Cert.KernelIdeal.Hand.mem_KOps_st5 (Cert.KernelIdeal.Hand.mem_st_5 (List.getElem_mem (l := Cert.KernelIdeal.GenP.hostOps5 (F := Ideal)) (n := 50) (by decide)))) rfl rfl (by decide) (x := Cert.KernelIdeal.main_arg7) (y := Cert.KernelIdeal.main_v89) (f := open Cert.KernelIdeal Cert.KernelIdeal.Gen in (extractStridedSlice S1x16x16 ![0, 0, 0] · slices_S3x16x16_S1x16x16_0_0_0)) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part13 (List.getElem_mem (l := Cert.ReferenceIdeal.Hand.ops_part13 (F := Ideal)) (n := 74) (by decide))) rfl rfl (by decide) (x := Cert.ReferenceIdeal.main_arg7) (y := Cert.ReferenceIdeal.main_v685) (f := open Cert.ReferenceIdeal Cert.ReferenceIdeal.Gen in (extractStridedSlice S1x16x16 ![0, 0, 0] · slices_S3x16x16_S1x16x16_0_0_0)) (hx := ⟨by decide, rfl⟩) (hy := ⟨by decide, rfl⟩)
  rw [hk, hr, ← c_main_arg7__main_arg7 hag hel]

theorem c_main_v90__main_v686 : StableHlo.after Cert.KernelIdeal.Hand.KOps (Cert.KernelIdeal.Hand.Wl (F := Ideal) m ρ c) (Proc.devRef .tc Cert.KernelIdeal.main_v90) = StableHlo.after (Cert.ReferenceIdeal.Hand.ops (F := Ideal)) (StableHlo.launchContents m' c) (Proc.devRef .tc Cert.ReferenceIdeal.main_v686) := by
  have hk := StableHlo.Ascending.eq_reshape Cert.KernelIdeal.Hand.KOps_asc (Cert.KernelIdeal.Hand.Wl m ρ c) (Cert.KernelIdeal.Hand.mem_KOps_st5 (Cert.KernelIdeal.Hand.mem_st_5 (List.getElem_mem (l := Cert.KernelIdeal.GenP.hostOps5 (F := Ideal)) (n := 51) (by decide)))) rfl rfl (by decide) (x := Cert.KernelIdeal.main_v89) (y := Cert.KernelIdeal.main_v90) (he := rfl) (hn := Cert.KernelIdeal.Gen.shapeCasts_S1x16x16_S16x16) (hx := ⟨by decide, rfl⟩) (hy := ⟨by decide, rfl⟩)
  have hr := StableHlo.Ascending.eq_reshape (Cert.ReferenceIdeal.Hand.ops_asc (F := Ideal)) (StableHlo.launchContents m' c) (Cert.ReferenceIdeal.Hand.mem_ops_part13 (List.getElem_mem (l := Cert.ReferenceIdeal.Hand.ops_part13 (F := Ideal)) (n := 75) (by decide))) rfl rfl (by decide) (x := Cert.ReferenceIdeal.main_v685) (y := Cert.ReferenceIdeal.main_v686) (he := rfl) (hn := Cert.ReferenceIdeal.Gen.shapeCasts_S1x16x16_S16x16) (hx := ⟨by decide, rfl⟩) (hy := ⟨by decide, rfl⟩)
  rw [hk, hr, ← c_main_v89__main_v685 hag hel]
  rfl

theorem c_main_v91__main_v687 : StableHlo.after Cert.KernelIdeal.Hand.KOps (Cert.KernelIdeal.Hand.Wl (F := Ideal) m ρ c) (Proc.devRef .tc Cert.KernelIdeal.main_v91) = StableHlo.after (Cert.ReferenceIdeal.Hand.ops (F := Ideal)) (StableHlo.launchContents m' c) (Proc.devRef .tc Cert.ReferenceIdeal.main_v687) := by
  have hk := StableHlo.Ascending.eq_binary Cert.KernelIdeal.Hand.KOps_asc (Cert.KernelIdeal.Hand.Wl m ρ c) (Cert.KernelIdeal.Hand.mem_KOps_st5 (Cert.KernelIdeal.Hand.mem_st_5 (List.getElem_mem (l := Cert.KernelIdeal.GenP.hostOps5 (F := Ideal)) (n := 52) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part13 (List.getElem_mem (l := Cert.ReferenceIdeal.Hand.ops_part13 (F := Ideal)) (n := 76) (by decide))) rfl rfl rfl (by decide) (by decide) (ha := ⟨by decide, rfl⟩) (hb := ⟨by decide, rfl⟩) (hy := ⟨by decide, rfl⟩)
  rw [hk, hr, ← c_main_v90__main_v686 hag hel, ← c_main_v85__main_v184 hag hel]
  rfl

theorem c_main_v92__main_v688 : StableHlo.after Cert.KernelIdeal.Hand.KOps (Cert.KernelIdeal.Hand.Wl (F := Ideal) m ρ c) (Proc.devRef .tc Cert.KernelIdeal.main_v92) = StableHlo.after (Cert.ReferenceIdeal.Hand.ops (F := Ideal)) (StableHlo.launchContents m' c) (Proc.devRef .tc Cert.ReferenceIdeal.main_v688) := by
  have hk := StableHlo.Ascending.eq_binary Cert.KernelIdeal.Hand.KOps_asc (Cert.KernelIdeal.Hand.Wl m ρ c) (Cert.KernelIdeal.Hand.mem_KOps_st5 (Cert.KernelIdeal.Hand.mem_st_5 (List.getElem_mem (l := Cert.KernelIdeal.GenP.hostOps5 (F := Ideal)) (n := 53) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part13 (List.getElem_mem (l := Cert.ReferenceIdeal.Hand.ops_part13 (F := Ideal)) (n := 77) (by decide))) rfl rfl rfl (by decide) (by decide) (ha := ⟨by decide, rfl⟩) (hb := ⟨by decide, rfl⟩) (hy := ⟨by decide, rfl⟩)
  rw [hk, hr, ← c_main_v88__main_v684 hag hel, ← c_main_v91__main_v687 hag hel]

theorem c_main_v93__main_v689 : StableHlo.after Cert.KernelIdeal.Hand.KOps (Cert.KernelIdeal.Hand.Wl (F := Ideal) m ρ c) (Proc.devRef .tc Cert.KernelIdeal.main_v93) = StableHlo.after (Cert.ReferenceIdeal.Hand.ops (F := Ideal)) (StableHlo.launchContents m' c) (Proc.devRef .tc Cert.ReferenceIdeal.main_v689) := by
  have hk := StableHlo.Ascending.eq_unary Cert.KernelIdeal.Hand.KOps_asc (Cert.KernelIdeal.Hand.Wl m ρ c) (Cert.KernelIdeal.Hand.mem_KOps_st5 (Cert.KernelIdeal.Hand.mem_st_5 (List.getElem_mem (l := Cert.KernelIdeal.GenP.hostOps5 (F := Ideal)) (n := 54) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part13 (List.getElem_mem (l := Cert.ReferenceIdeal.Hand.ops_part13 (F := Ideal)) (n := 78) (by decide))) rfl rfl (by decide) (hx := ⟨by decide, rfl⟩) (hy := ⟨by decide, rfl⟩)
  rw [hk, hr, ← c_main_v92__main_v688 hag hel]

theorem c_main_v94__main_v690 : StableHlo.after Cert.KernelIdeal.Hand.KOps (Cert.KernelIdeal.Hand.Wl (F := Ideal) m ρ c) (Proc.devRef .tc Cert.KernelIdeal.main_v94) = StableHlo.after (Cert.ReferenceIdeal.Hand.ops (F := Ideal)) (StableHlo.launchContents m' c) (Proc.devRef .tc Cert.ReferenceIdeal.main_v690) := by
  have hk := StableHlo.Ascending.eq_unary Cert.KernelIdeal.Hand.KOps_asc (Cert.KernelIdeal.Hand.Wl m ρ c) (Cert.KernelIdeal.Hand.mem_KOps_st5 (Cert.KernelIdeal.Hand.mem_st_5 (List.getElem_mem (l := Cert.KernelIdeal.GenP.hostOps5 (F := Ideal)) (n := 55) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part13 (List.getElem_mem (l := Cert.ReferenceIdeal.Hand.ops_part13 (F := Ideal)) (n := 79) (by decide))) rfl rfl (by decide) (hx := ⟨by decide, rfl⟩) (hy := ⟨by decide, rfl⟩)
  rw [hk, hr, ← c_main_v93__main_v689 hag hel]

end Cert.Value

end
-- ==== Proof.Val.C002.lean ====
/- Steps C002 of the value claim's chain: for each listed pair, the kernel program's buffer and its reference twin hold equal contents at the two programs' final
   valuations — the two operations are the same function (read off the two operation lists) of operands already paired. A table; written by: bun scratch/corr.js 60 -/
import proofs.«146970_j35948876268088_1_alg».proof.Proof.Val.Seed
import proofs.«146970_j35948876268088_1_alg».proof.Proof.KI.Dots
import Mathlib.Tactic.FinCases
import proofs.«146970_j35948876268088_1_alg».proof.Proof.Val.C001

set_option maxRecDepth 16384

noncomputable section

namespace Cert.Value

open Idealize.ShloMosaic Idealize.ShloMosaic.TcCoe Idealize.SL.Sem

variable {m : (ℓ : Loc Cert.KernelIdeal.nD Cert.KernelIdeal.τ Cert.KernelIdeal.sig) → Buf (Elt Ideal) ℓ} {ρ : Dev Cert.KernelIdeal.nD → PrngReg}
  {m' : (ℓ : Loc Cert.ReferenceIdeal.nD Cert.ReferenceIdeal.τ Cert.ReferenceIdeal.sig) → Buf (Elt Ideal) ℓ} {c : Dev Cert.KernelIdeal.nD} (hag : Agree m m') (hel : Els m' c)
include hag hel

theorem c_main_cst_14__main_cst_145 : StableHlo.after Cert.KernelIdeal.Hand.KOps (Cert.KernelIdeal.Hand.Wl (F := Ideal) m ρ c) (Proc.devRef .tc Cert.KernelIdeal.main_cst_14) = StableHlo.after (Cert.ReferenceIdeal.Hand.ops (F := Ideal)) (StableHlo.launchContents m' c) (Proc.devRef .tc Cert.ReferenceIdeal.main_cst_145) := by
  have hk := StableHlo.Ascending.eq_nullary Cert.KernelIdeal.Hand.KOps_asc (Cert.KernelIdeal.Hand.Wl m ρ c) (Cert.KernelIdeal.Hand.mem_KOps_st5 (Cert.KernelIdeal.Hand.mem_st_5 (List.getElem_mem (l := Cert.KernelIdeal.GenP.hostOps5 (F := Ideal)) (n := 56) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part13 (List.getElem_mem (l := Cert.ReferenceIdeal.Hand.ops_part13 (F := Ideal)) (n := 80) (by decide))) rfl (hy := ⟨by decide, rfl⟩)
  rw [hk, hr]

theorem c_main_v95__main_v691 : StableHlo.after Cert.KernelIdeal.Hand.KOps (Cert.KernelIdeal.Hand.Wl (F := Ideal) m ρ c) (Proc.devRef .tc Cert.KernelIdeal.main_v95) = StableHlo.after (Cert.ReferenceIdeal.Hand.ops (F := Ideal)) (StableHlo.launchContents m' c) (Proc.devRef .tc Cert.ReferenceIdeal.main_v691) := by
  have hk := StableHlo.Ascending.eq_unary Cert.KernelIdeal.Hand.KOps_asc (Cert.KernelIdeal.Hand.Wl m ρ c) (Cert.KernelIdeal.Hand.mem_KOps_st5 (Cert.KernelIdeal.Hand.mem_st_5 (List.getElem_mem (l := Cert.KernelIdeal.GenP.hostOps5 (F := Ideal)) (n := 57) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part13 (List.getElem_mem (l := Cert.ReferenceIdeal.Hand.ops_part13 (F := Ideal)) (n := 81) (by decide))) rfl rfl (by decide) (hx := ⟨by decide, rfl⟩) (hy := ⟨by decide, rfl⟩)
  rw [hk, hr, ← c_main_cst_14__main_cst_145 hag hel]

theorem c_main_v96__main_v692 : StableHlo.after Cert.KernelIdeal.Hand.KOps (Cert.KernelIdeal.Hand.Wl (F := Ideal) m ρ c) (Proc.devRef .tc Cert.KernelIdeal.main_v96) = StableHlo.after (Cert.ReferenceIdeal.Hand.ops (F := Ideal)) (StableHlo.launchContents m' c) (Proc.devRef .tc Cert.ReferenceIdeal.main_v692) := by
  have hk := StableHlo.Ascending.eq_binary Cert.KernelIdeal.Hand.KOps_asc (Cert.KernelIdeal.Hand.Wl m ρ c) (Cert.KernelIdeal.Hand.mem_KOps_st5 (Cert.KernelIdeal.Hand.mem_st_5 (List.getElem_mem (l := Cert.KernelIdeal.GenP.hostOps5 (F := Ideal)) (n := 58) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part14 (List.getElem_mem (l := Cert.ReferenceIdeal.Hand.ops_part14 (F := Ideal)) (n := 0) (by decide))) rfl rfl rfl (by decide) (by decide) (ha := ⟨by decide, rfl⟩) (hb := ⟨by decide, rfl⟩) (hy := ⟨by decide, rfl⟩)
  rw [hk, hr, ← c_main_v95__main_v691 hag hel, ← c_main_v94__main_v690 hag hel]

theorem c_main_cst_15__main_cst_146 : StableHlo.after Cert.KernelIdeal.Hand.KOps (Cert.KernelIdeal.Hand.Wl (F := Ideal) m ρ c) (Proc.devRef .tc Cert.KernelIdeal.main_cst_15) = StableHlo.after (Cert.ReferenceIdeal.Hand.ops (F := Ideal)) (StableHlo.launchContents m' c) (Proc.devRef .tc Cert.ReferenceIdeal.main_cst_146) := by
  have hk := StableHlo.Ascending.eq_nullary Cert.KernelIdeal.Hand.KOps_asc (Cert.KernelIdeal.Hand.Wl m ρ c) (Cert.KernelIdeal.Hand.mem_KOps_st5 (Cert.KernelIdeal.Hand.mem_st_5 (List.getElem_mem (l := Cert.KernelIdeal.GenP.hostOps5 (F := Ideal)) (n := 59) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part14 (List.getElem_mem (l := Cert.ReferenceIdeal.Hand.ops_part14 (F := Ideal)) (n := 1) (by decide))) rfl (hy := ⟨by decide, rfl⟩)
  rw [hk, hr]

theorem c_main_v97__main_v693 : StableHlo.after Cert.KernelIdeal.Hand.KOps (Cert.KernelIdeal.Hand.Wl (F := Ideal) m ρ c) (Proc.devRef .tc Cert.KernelIdeal.main_v97) = StableHlo.after (Cert.ReferenceIdeal.Hand.ops (F := Ideal)) (StableHlo.launchContents m' c) (Proc.devRef .tc Cert.ReferenceIdeal.main_v693) := by
  have hk := StableHlo.Ascending.eq_unary Cert.KernelIdeal.Hand.KOps_asc (Cert.KernelIdeal.Hand.Wl m ρ c) (Cert.KernelIdeal.Hand.mem_KOps_st5 (Cert.KernelIdeal.Hand.mem_st_5 (List.getElem_mem (l := Cert.KernelIdeal.GenP.hostOps5 (F := Ideal)) (n := 60) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part14 (List.getElem_mem (l := Cert.ReferenceIdeal.Hand.ops_part14 (F := Ideal)) (n := 2) (by decide))) rfl rfl (by decide) (hx := ⟨by decide, rfl⟩) (hy := ⟨by decide, rfl⟩)
  rw [hk, hr, ← c_main_cst_15__main_cst_146 hag hel]

theorem c_main_v98__main_v694 : StableHlo.after Cert.KernelIdeal.Hand.KOps (Cert.KernelIdeal.Hand.Wl (F := Ideal) m ρ c) (Proc.devRef .tc Cert.KernelIdeal.main_v98) = StableHlo.after (Cert.ReferenceIdeal.Hand.ops (F := Ideal)) (StableHlo.launchContents m' c) (Proc.devRef .tc Cert.ReferenceIdeal.main_v694) := by
  have hk := StableHlo.Ascending.eq_binary Cert.KernelIdeal.Hand.KOps_asc (Cert.KernelIdeal.Hand.Wl m ρ c) (Cert.KernelIdeal.Hand.mem_KOps_st5 (Cert.KernelIdeal.Hand.mem_st_5 (List.getElem_mem (l := Cert.KernelIdeal.GenP.hostOps5 (F := Ideal)) (n := 61) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part14 (List.getElem_mem (l := Cert.ReferenceIdeal.Hand.ops_part14 (F := Ideal)) (n := 3) (by decide))) rfl rfl rfl (by decide) (by decide) (ha := ⟨by decide, rfl⟩) (hb := ⟨by decide, rfl⟩) (hy := ⟨by decide, rfl⟩)
  rw [hk, hr, ← c_main_v97__main_v693 hag hel, ← c_main_v96__main_v692 hag hel]

theorem c_main_v99__main_v695 : StableHlo.after Cert.KernelIdeal.Hand.KOps (Cert.KernelIdeal.Hand.Wl (F := Ideal) m ρ c) (Proc.devRef .tc Cert.KernelIdeal.main_v99) = StableHlo.after (Cert.ReferenceIdeal.Hand.ops (F := Ideal)) (StableHlo.launchContents m' c) (Proc.devRef .tc Cert.ReferenceIdeal.main_v695) := by
  have hk := StableHlo.Ascending.eq_unary Cert.KernelIdeal.Hand.KOps_asc (Cert.KernelIdeal.Hand.Wl m ρ c) (Cert.KernelIdeal.Hand.mem_KOps_st5 (Cert.KernelIdeal.Hand.mem_st_5 (List.getElem_mem (l := Cert.KernelIdeal.GenP.hostOps5 (F := Ideal)) (n := 62) (by decide)))) rfl rfl (by decide) (x := Cert.KernelIdeal.main_arg6) (y := Cert.KernelIdeal.main_v99) (f := open Cert.KernelIdeal Cert.KernelIdeal.Gen in (extractStridedSlice S1x16x16 ![1, 0, 0] · slices_S3x16x16_S1x16x16_1_0_0)) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part14 (List.getElem_mem (l := Cert.ReferenceIdeal.Hand.ops_part14 (F := Ideal)) (n := 4) (by decide))) rfl rfl (by decide) (x := Cert.ReferenceIdeal.main_arg6) (y := Cert.ReferenceIdeal.main_v695) (f := open Cert.ReferenceIdeal Cert.ReferenceIdeal.Gen in (extractStridedSlice S1x16x16 ![1, 0, 0] · slices_S3x16x16_S1x16x16_1_0_0)) (hx := ⟨by decide, rfl⟩) (hy := ⟨by decide, rfl⟩)
  rw [hk, hr, ← c_main_arg6__main_arg6 hag hel]

theorem c_main_v100__main_v696 : StableHlo.after Cert.KernelIdeal.Hand.KOps (Cert.KernelIdeal.Hand.Wl (F := Ideal) m ρ c) (Proc.devRef .tc Cert.KernelIdeal.main_v100) = StableHlo.after (Cert.ReferenceIdeal.Hand.ops (F := Ideal)) (StableHlo.launchContents m' c) (Proc.devRef .tc Cert.ReferenceIdeal.main_v696) := by
  have hk := StableHlo.Ascending.eq_reshape Cert.KernelIdeal.Hand.KOps_asc (Cert.KernelIdeal.Hand.Wl m ρ c) (Cert.KernelIdeal.Hand.mem_KOps_st5 (Cert.KernelIdeal.Hand.mem_st_5 (List.getElem_mem (l := Cert.KernelIdeal.GenP.hostOps5 (F := Ideal)) (n := 63) (by decide)))) rfl rfl (by decide) (x := Cert.KernelIdeal.main_v99) (y := Cert.KernelIdeal.main_v100) (he := rfl) (hn := Cert.KernelIdeal.Gen.shapeCasts_S1x16x16_S16x16) (hx := ⟨by decide, rfl⟩) (hy := ⟨by decide, rfl⟩)
  have hr := StableHlo.Ascending.eq_reshape (Cert.ReferenceIdeal.Hand.ops_asc (F := Ideal)) (StableHlo.launchContents m' c) (Cert.ReferenceIdeal.Hand.mem_ops_part14 (List.getElem_mem (l := Cert.ReferenceIdeal.Hand.ops_part14 (F := Ideal)) (n := 5) (by decide))) rfl rfl (by decide) (x := Cert.ReferenceIdeal.main_v695) (y := Cert.ReferenceIdeal.main_v696) (he := rfl) (hn := Cert.ReferenceIdeal.Gen.shapeCasts_S1x16x16_S16x16) (hx := ⟨by decide, rfl⟩) (hy := ⟨by decide, rfl⟩)
  rw [hk, hr, ← c_main_v99__main_v695 hag hel]
  rfl

theorem c_main_v101__main_v697 : StableHlo.after Cert.KernelIdeal.Hand.KOps (Cert.KernelIdeal.Hand.Wl (F := Ideal) m ρ c) (Proc.devRef .tc Cert.KernelIdeal.main_v101) = StableHlo.after (Cert.ReferenceIdeal.Hand.ops (F := Ideal)) (StableHlo.launchContents m' c) (Proc.devRef .tc Cert.ReferenceIdeal.main_v697) := by
  have hk := StableHlo.Ascending.eq_binary Cert.KernelIdeal.Hand.KOps_asc (Cert.KernelIdeal.Hand.Wl m ρ c) (Cert.KernelIdeal.Hand.mem_KOps_st5 (Cert.KernelIdeal.Hand.mem_st_5 (List.getElem_mem (l := Cert.KernelIdeal.GenP.hostOps5 (F := Ideal)) (n := 64) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part14 (List.getElem_mem (l := Cert.ReferenceIdeal.Hand.ops_part14 (F := Ideal)) (n := 6) (by decide))) rfl rfl rfl (by decide) (by decide) (ha := ⟨by decide, rfl⟩) (hb := ⟨by decide, rfl⟩) (hy := ⟨by decide, rfl⟩)
  rw [hk, hr, ← c_main_v100__main_v696 hag hel, ← c_main_v85__main_v184 hag hel]
  rfl

theorem c_main_v102__main_v698 : StableHlo.after Cert.KernelIdeal.Hand.KOps (Cert.KernelIdeal.Hand.Wl (F := Ideal) m ρ c) (Proc.devRef .tc Cert.KernelIdeal.main_v102) = StableHlo.after (Cert.ReferenceIdeal.Hand.ops (F := Ideal)) (StableHlo.launchContents m' c) (Proc.devRef .tc Cert.ReferenceIdeal.main_v698) := by
  have hk := StableHlo.Ascending.eq_unary Cert.KernelIdeal.Hand.KOps_asc (Cert.KernelIdeal.Hand.Wl m ρ c) (Cert.KernelIdeal.Hand.mem_KOps_st5 (Cert.KernelIdeal.Hand.mem_st_5 (List.getElem_mem (l := Cert.KernelIdeal.GenP.hostOps5 (F := Ideal)) (n := 65) (by decide)))) rfl rfl (by decide) (x := Cert.KernelIdeal.main_arg7) (y := Cert.KernelIdeal.main_v102) (f := open Cert.KernelIdeal Cert.KernelIdeal.Gen in (extractStridedSlice S1x16x16 ![1, 0, 0] · slices_S3x16x16_S1x16x16_1_0_0)) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part14 (List.getElem_mem (l := Cert.ReferenceIdeal.Hand.ops_part14 (F := Ideal)) (n := 7) (by decide))) rfl rfl (by decide) (x := Cert.ReferenceIdeal.main_arg7) (y := Cert.ReferenceIdeal.main_v698) (f := open Cert.ReferenceIdeal Cert.ReferenceIdeal.Gen in (extractStridedSlice S1x16x16 ![1, 0, 0] · slices_S3x16x16_S1x16x16_1_0_0)) (hx := ⟨by decide, rfl⟩) (hy := ⟨by decide, rfl⟩)
  rw [hk, hr, ← c_main_arg7__main_arg7 hag hel]

theorem c_main_v103__main_v699 : StableHlo.after Cert.KernelIdeal.Hand.KOps (Cert.KernelIdeal.Hand.Wl (F := Ideal) m ρ c) (Proc.devRef .tc Cert.KernelIdeal.main_v103) = StableHlo.after (Cert.ReferenceIdeal.Hand.ops (F := Ideal)) (StableHlo.launchContents m' c) (Proc.devRef .tc Cert.ReferenceIdeal.main_v699) := by
  have hk := StableHlo.Ascending.eq_reshape Cert.KernelIdeal.Hand.KOps_asc (Cert.KernelIdeal.Hand.Wl m ρ c) (Cert.KernelIdeal.Hand.mem_KOps_st5 (Cert.KernelIdeal.Hand.mem_st_5 (List.getElem_mem (l := Cert.KernelIdeal.GenP.hostOps5 (F := Ideal)) (n := 66) (by decide)))) rfl rfl (by decide) (x := Cert.KernelIdeal.main_v102) (y := Cert.KernelIdeal.main_v103) (he := rfl) (hn := Cert.KernelIdeal.Gen.shapeCasts_S1x16x16_S16x16) (hx := ⟨by decide, rfl⟩) (hy := ⟨by decide, rfl⟩)
  have hr := StableHlo.Ascending.eq_reshape (Cert.ReferenceIdeal.Hand.ops_asc (F := Ideal)) (StableHlo.launchContents m' c) (Cert.ReferenceIdeal.Hand.mem_ops_part14 (List.getElem_mem (l := Cert.ReferenceIdeal.Hand.ops_part14 (F := Ideal)) (n := 8) (by decide))) rfl rfl (by decide) (x := Cert.ReferenceIdeal.main_v698) (y := Cert.ReferenceIdeal.main_v699) (he := rfl) (hn := Cert.ReferenceIdeal.Gen.shapeCasts_S1x16x16_S16x16) (hx := ⟨by decide, rfl⟩) (hy := ⟨by decide, rfl⟩)
  rw [hk, hr, ← c_main_v102__main_v698 hag hel]
  rfl

theorem c_main_v104__main_v700 : StableHlo.after Cert.KernelIdeal.Hand.KOps (Cert.KernelIdeal.Hand.Wl (F := Ideal) m ρ c) (Proc.devRef .tc Cert.KernelIdeal.main_v104) = StableHlo.after (Cert.ReferenceIdeal.Hand.ops (F := Ideal)) (StableHlo.launchContents m' c) (Proc.devRef .tc Cert.ReferenceIdeal.main_v700) := by
  have hk := StableHlo.Ascending.eq_binary Cert.KernelIdeal.Hand.KOps_asc (Cert.KernelIdeal.Hand.Wl m ρ c) (Cert.KernelIdeal.Hand.mem_KOps_st5 (Cert.KernelIdeal.Hand.mem_st_5 (List.getElem_mem (l := Cert.KernelIdeal.GenP.hostOps5 (F := Ideal)) (n := 67) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part14 (List.getElem_mem (l := Cert.ReferenceIdeal.Hand.ops_part14 (F := Ideal)) (n := 9) (by decide))) rfl rfl rfl (by decide) (by decide) (ha := ⟨by decide, rfl⟩) (hb := ⟨by decide, rfl⟩) (hy := ⟨by decide, rfl⟩)
  rw [hk, hr, ← c_main_v103__main_v699 hag hel, ← c_main_v85__main_v184 hag hel]
  rfl

theorem c_main_v105__main_v701 : StableHlo.after Cert.KernelIdeal.Hand.KOps (Cert.KernelIdeal.Hand.Wl (F := Ideal) m ρ c) (Proc.devRef .tc Cert.KernelIdeal.main_v105) = StableHlo.after (Cert.ReferenceIdeal.Hand.ops (F := Ideal)) (StableHlo.launchContents m' c) (Proc.devRef .tc Cert.ReferenceIdeal.main_v701) := by
  have hk := StableHlo.Ascending.eq_binary Cert.KernelIdeal.Hand.KOps_asc (Cert.KernelIdeal.Hand.Wl m ρ c) (Cert.KernelIdeal.Hand.mem_KOps_st5 (Cert.KernelIdeal.Hand.mem_st_5 (List.getElem_mem (l := Cert.KernelIdeal.GenP.hostOps5 (F := Ideal)) (n := 68) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part14 (List.getElem_mem (l := Cert.ReferenceIdeal.Hand.ops_part14 (F := Ideal)) (n := 10) (by decide))) rfl rfl rfl (by decide) (by decide) (ha := ⟨by decide, rfl⟩) (hb := ⟨by decide, rfl⟩) (hy := ⟨by decide, rfl⟩)
  rw [hk, hr, ← c_main_v101__main_v697 hag hel, ← c_main_v104__main_v700 hag hel]

theorem c_main_v106__main_v702 : StableHlo.after Cert.KernelIdeal.Hand.KOps (Cert.KernelIdeal.Hand.Wl (F := Ideal) m ρ c) (Proc.devRef .tc Cert.KernelIdeal.main_v106) = StableHlo.after (Cert.ReferenceIdeal.Hand.ops (F := Ideal)) (StableHlo.launchContents m' c) (Proc.devRef .tc Cert.ReferenceIdeal.main_v702) := by
  have hk := StableHlo.Ascending.eq_unary Cert.KernelIdeal.Hand.KOps_asc (Cert.KernelIdeal.Hand.Wl m ρ c) (Cert.KernelIdeal.Hand.mem_KOps_st5 (Cert.KernelIdeal.Hand.mem_st_5 (List.getElem_mem (l := Cert.KernelIdeal.GenP.hostOps5 (F := Ideal)) (n := 69) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part14 (List.getElem_mem (l := Cert.ReferenceIdeal.Hand.ops_part14 (F := Ideal)) (n := 11) (by decide))) rfl rfl (by decide) (hx := ⟨by decide, rfl⟩) (hy := ⟨by decide, rfl⟩)
  rw [hk, hr, ← c_main_v105__main_v701 hag hel]

theorem c_main_v107__main_v703 : StableHlo.after Cert.KernelIdeal.Hand.KOps (Cert.KernelIdeal.Hand.Wl (F := Ideal) m ρ c) (Proc.devRef .tc Cert.KernelIdeal.main_v107) = StableHlo.after (Cert.ReferenceIdeal.Hand.ops (F := Ideal)) (StableHlo.launchContents m' c) (Proc.devRef .tc Cert.ReferenceIdeal.main_v703) := by
  have hk := StableHlo.Ascending.eq_unary Cert.KernelIdeal.Hand.KOps_asc (Cert.KernelIdeal.Hand.Wl m ρ c) (Cert.KernelIdeal.Hand.mem_KOps_st5 (Cert.KernelIdeal.Hand.mem_st_5 (List.getElem_mem (l := Cert.KernelIdeal.GenP.hostOps5 (F := Ideal)) (n := 70) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part14 (List.getElem_mem (l := Cert.ReferenceIdeal.Hand.ops_part14 (F := Ideal)) (n := 12) (by decide))) rfl rfl (by decide) (hx := ⟨by decide, rfl⟩) (hy := ⟨by decide, rfl⟩)
  rw [hk, hr, ← c_main_v106__main_v702 hag hel]

theorem c_main_cst_16__main_cst_147 : StableHlo.after Cert.KernelIdeal.Hand.KOps (Cert.KernelIdeal.Hand.Wl (F := Ideal) m ρ c) (Proc.devRef .tc Cert.KernelIdeal.main_cst_16) = StableHlo.after (Cert.ReferenceIdeal.Hand.ops (F := Ideal)) (StableHlo.launchContents m' c) (Proc.devRef .tc Cert.ReferenceIdeal.main_cst_147) := by
  have hk := StableHlo.Ascending.eq_nullary Cert.KernelIdeal.Hand.KOps_asc (Cert.KernelIdeal.Hand.Wl m ρ c) (Cert.KernelIdeal.Hand.mem_KOps_st5 (Cert.KernelIdeal.Hand.mem_st_5 (List.getElem_mem (l := Cert.KernelIdeal.GenP.hostOps5 (F := Ideal)) (n := 71) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part14 (List.getElem_mem (l := Cert.ReferenceIdeal.Hand.ops_part14 (F := Ideal)) (n := 13) (by decide))) rfl (hy := ⟨by decide, rfl⟩)
  rw [hk, hr]

theorem c_main_v108__main_v704 : StableHlo.after Cert.KernelIdeal.Hand.KOps (Cert.KernelIdeal.Hand.Wl (F := Ideal) m ρ c) (Proc.devRef .tc Cert.KernelIdeal.main_v108) = StableHlo.after (Cert.ReferenceIdeal.Hand.ops (F := Ideal)) (StableHlo.launchContents m' c) (Proc.devRef .tc Cert.ReferenceIdeal.main_v704) := by
  have hk := StableHlo.Ascending.eq_unary Cert.KernelIdeal.Hand.KOps_asc (Cert.KernelIdeal.Hand.Wl m ρ c) (Cert.KernelIdeal.Hand.mem_KOps_st5 (Cert.KernelIdeal.Hand.mem_st_5 (List.getElem_mem (l := Cert.KernelIdeal.GenP.hostOps5 (F := Ideal)) (n := 72) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part14 (List.getElem_mem (l := Cert.ReferenceIdeal.Hand.ops_part14 (F := Ideal)) (n := 14) (by decide))) rfl rfl (by decide) (hx := ⟨by decide, rfl⟩) (hy := ⟨by decide, rfl⟩)
  rw [hk, hr, ← c_main_cst_16__main_cst_147 hag hel]

theorem c_main_v109__main_v705 : StableHlo.after Cert.KernelIdeal.Hand.KOps (Cert.KernelIdeal.Hand.Wl (F := Ideal) m ρ c) (Proc.devRef .tc Cert.KernelIdeal.main_v109) = StableHlo.after (Cert.ReferenceIdeal.Hand.ops (F := Ideal)) (StableHlo.launchContents m' c) (Proc.devRef .tc Cert.ReferenceIdeal.main_v705) := by
  have hk := StableHlo.Ascending.eq_binary Cert.KernelIdeal.Hand.KOps_asc (Cert.KernelIdeal.Hand.Wl m ρ c) (Cert.KernelIdeal.Hand.mem_KOps_st5 (Cert.KernelIdeal.Hand.mem_st_5 (List.getElem_mem (l := Cert.KernelIdeal.GenP.hostOps5 (F := Ideal)) (n := 73) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part14 (List.getElem_mem (l := Cert.ReferenceIdeal.Hand.ops_part14 (F := Ideal)) (n := 15) (by decide))) rfl rfl rfl (by decide) (by decide) (ha := ⟨by decide, rfl⟩) (hb := ⟨by decide, rfl⟩) (hy := ⟨by decide, rfl⟩)
  rw [hk, hr, ← c_main_v108__main_v704 hag hel, ← c_main_v107__main_v703 hag hel]

theorem c_main_cst_17__main_cst_148 : StableHlo.after Cert.KernelIdeal.Hand.KOps (Cert.KernelIdeal.Hand.Wl (F := Ideal) m ρ c) (Proc.devRef .tc Cert.KernelIdeal.main_cst_17) = StableHlo.after (Cert.ReferenceIdeal.Hand.ops (F := Ideal)) (StableHlo.launchContents m' c) (Proc.devRef .tc Cert.ReferenceIdeal.main_cst_148) := by
  have hk := StableHlo.Ascending.eq_nullary Cert.KernelIdeal.Hand.KOps_asc (Cert.KernelIdeal.Hand.Wl m ρ c) (Cert.KernelIdeal.Hand.mem_KOps_st5 (Cert.KernelIdeal.Hand.mem_st_5 (List.getElem_mem (l := Cert.KernelIdeal.GenP.hostOps5 (F := Ideal)) (n := 74) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part14 (List.getElem_mem (l := Cert.ReferenceIdeal.Hand.ops_part14 (F := Ideal)) (n := 16) (by decide))) rfl (hy := ⟨by decide, rfl⟩)
  rw [hk, hr]

theorem c_main_v110__main_v706 : StableHlo.after Cert.KernelIdeal.Hand.KOps (Cert.KernelIdeal.Hand.Wl (F := Ideal) m ρ c) (Proc.devRef .tc Cert.KernelIdeal.main_v110) = StableHlo.after (Cert.ReferenceIdeal.Hand.ops (F := Ideal)) (StableHlo.launchContents m' c) (Proc.devRef .tc Cert.ReferenceIdeal.main_v706) := by
  have hk := StableHlo.Ascending.eq_unary Cert.KernelIdeal.Hand.KOps_asc (Cert.KernelIdeal.Hand.Wl m ρ c) (Cert.KernelIdeal.Hand.mem_KOps_st5 (Cert.KernelIdeal.Hand.mem_st_5 (List.getElem_mem (l := Cert.KernelIdeal.GenP.hostOps5 (F := Ideal)) (n := 75) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part14 (List.getElem_mem (l := Cert.ReferenceIdeal.Hand.ops_part14 (F := Ideal)) (n := 17) (by decide))) rfl rfl (by decide) (hx := ⟨by decide, rfl⟩) (hy := ⟨by decide, rfl⟩)
  rw [hk, hr, ← c_main_cst_17__main_cst_148 hag hel]

theorem c_main_v111__main_v707 : StableHlo.after Cert.KernelIdeal.Hand.KOps (Cert.KernelIdeal.Hand.Wl (F := Ideal) m ρ c) (Proc.devRef .tc Cert.KernelIdeal.main_v111) = StableHlo.after (Cert.ReferenceIdeal.Hand.ops (F := Ideal)) (StableHlo.launchContents m' c) (Proc.devRef .tc Cert.ReferenceIdeal.main_v707) := by
  have hk := StableHlo.Ascending.eq_binary Cert.KernelIdeal.Hand.KOps_asc (Cert.KernelIdeal.Hand.Wl m ρ c) (Cert.KernelIdeal.Hand.mem_KOps_st5 (Cert.KernelIdeal.Hand.mem_st_5 (List.getElem_mem (l := Cert.KernelIdeal.GenP.hostOps5 (F := Ideal)) (n := 76) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part14 (List.getElem_mem (l := Cert.ReferenceIdeal.Hand.ops_part14 (F := Ideal)) (n := 18) (by decide))) rfl rfl rfl (by decide) (by decide) (ha := ⟨by decide, rfl⟩) (hb := ⟨by decide, rfl⟩) (hy := ⟨by decide, rfl⟩)
  rw [hk, hr, ← c_main_v110__main_v706 hag hel, ← c_main_v109__main_v705 hag hel]

theorem c_main_v112__main_v708 : StableHlo.after Cert.KernelIdeal.Hand.KOps (Cert.KernelIdeal.Hand.Wl (F := Ideal) m ρ c) (Proc.devRef .tc Cert.KernelIdeal.main_v112) = StableHlo.after (Cert.ReferenceIdeal.Hand.ops (F := Ideal)) (StableHlo.launchContents m' c) (Proc.devRef .tc Cert.ReferenceIdeal.main_v708) := by
  have hk := StableHlo.Ascending.eq_unary Cert.KernelIdeal.Hand.KOps_asc (Cert.KernelIdeal.Hand.Wl m ρ c) (Cert.KernelIdeal.Hand.mem_KOps_st5 (Cert.KernelIdeal.Hand.mem_st_5 (List.getElem_mem (l := Cert.KernelIdeal.GenP.hostOps5 (F := Ideal)) (n := 77) (by decide)))) rfl rfl (by decide) (x := Cert.KernelIdeal.main_arg6) (y := Cert.KernelIdeal.main_v112) (f := open Cert.KernelIdeal Cert.KernelIdeal.Gen in (extractStridedSlice S1x16x16 ![2, 0, 0] · slices_S3x16x16_S1x16x16_2_0_0)) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part14 (List.getElem_mem (l := Cert.ReferenceIdeal.Hand.ops_part14 (F := Ideal)) (n := 19) (by decide))) rfl rfl (by decide) (x := Cert.ReferenceIdeal.main_arg6) (y := Cert.ReferenceIdeal.main_v708) (f := open Cert.ReferenceIdeal Cert.ReferenceIdeal.Gen in (extractStridedSlice S1x16x16 ![2, 0, 0] · slices_S3x16x16_S1x16x16_2_0_0)) (hx := ⟨by decide, rfl⟩) (hy := ⟨by decide, rfl⟩)
  rw [hk, hr, ← c_main_arg6__main_arg6 hag hel]

theorem c_main_v113__main_v709 : StableHlo.after Cert.KernelIdeal.Hand.KOps (Cert.KernelIdeal.Hand.Wl (F := Ideal) m ρ c) (Proc.devRef .tc Cert.KernelIdeal.main_v113) = StableHlo.after (Cert.ReferenceIdeal.Hand.ops (F := Ideal)) (StableHlo.launchContents m' c) (Proc.devRef .tc Cert.ReferenceIdeal.main_v709) := by
  have hk := StableHlo.Ascending.eq_reshape Cert.KernelIdeal.Hand.KOps_asc (Cert.KernelIdeal.Hand.Wl m ρ c) (Cert.KernelIdeal.Hand.mem_KOps_st5 (Cert.KernelIdeal.Hand.mem_st_5 (List.getElem_mem (l := Cert.KernelIdeal.GenP.hostOps5 (F := Ideal)) (n := 78) (by decide)))) rfl rfl (by decide) (x := Cert.KernelIdeal.main_v112) (y := Cert.KernelIdeal.main_v113) (he := rfl) (hn := Cert.KernelIdeal.Gen.shapeCasts_S1x16x16_S16x16) (hx := ⟨by decide, rfl⟩) (hy := ⟨by decide, rfl⟩)
  have hr := StableHlo.Ascending.eq_reshape (Cert.ReferenceIdeal.Hand.ops_asc (F := Ideal)) (StableHlo.launchContents m' c) (Cert.ReferenceIdeal.Hand.mem_ops_part14 (List.getElem_mem (l := Cert.ReferenceIdeal.Hand.ops_part14 (F := Ideal)) (n := 20) (by decide))) rfl rfl (by decide) (x := Cert.ReferenceIdeal.main_v708) (y := Cert.ReferenceIdeal.main_v709) (he := rfl) (hn := Cert.ReferenceIdeal.Gen.shapeCasts_S1x16x16_S16x16) (hx := ⟨by decide, rfl⟩) (hy := ⟨by decide, rfl⟩)
  rw [hk, hr, ← c_main_v112__main_v708 hag hel]
  rfl

theorem c_main_v114__main_v710 : StableHlo.after Cert.KernelIdeal.Hand.KOps (Cert.KernelIdeal.Hand.Wl (F := Ideal) m ρ c) (Proc.devRef .tc Cert.KernelIdeal.main_v114) = StableHlo.after (Cert.ReferenceIdeal.Hand.ops (F := Ideal)) (StableHlo.launchContents m' c) (Proc.devRef .tc Cert.ReferenceIdeal.main_v710) := by
  have hk := StableHlo.Ascending.eq_binary Cert.KernelIdeal.Hand.KOps_asc (Cert.KernelIdeal.Hand.Wl m ρ c) (Cert.KernelIdeal.Hand.mem_KOps_st5 (Cert.KernelIdeal.Hand.mem_st_5 (List.getElem_mem (l := Cert.KernelIdeal.GenP.hostOps5 (F := Ideal)) (n := 79) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part14 (List.getElem_mem (l := Cert.ReferenceIdeal.Hand.ops_part14 (F := Ideal)) (n := 21) (by decide))) rfl rfl rfl (by decide) (by decide) (ha := ⟨by decide, rfl⟩) (hb := ⟨by decide, rfl⟩) (hy := ⟨by decide, rfl⟩)
  rw [hk, hr, ← c_main_v113__main_v709 hag hel, ← c_main_v85__main_v184 hag hel]
  rfl

theorem c_main_v115__main_v711 : StableHlo.after Cert.KernelIdeal.Hand.KOps (Cert.KernelIdeal.Hand.Wl (F := Ideal) m ρ c) (Proc.devRef .tc Cert.KernelIdeal.main_v115) = StableHlo.after (Cert.ReferenceIdeal.Hand.ops (F := Ideal)) (StableHlo.launchContents m' c) (Proc.devRef .tc Cert.ReferenceIdeal.main_v711) := by
  have hk := StableHlo.Ascending.eq_unary Cert.KernelIdeal.Hand.KOps_asc (Cert.KernelIdeal.Hand.Wl m ρ c) (Cert.KernelIdeal.Hand.mem_KOps_st5 (Cert.KernelIdeal.Hand.mem_st_5 (List.getElem_mem (l := Cert.KernelIdeal.GenP.hostOps5 (F := Ideal)) (n := 80) (by decide)))) rfl rfl (by decide) (x := Cert.KernelIdeal.main_arg7) (y := Cert.KernelIdeal.main_v115) (f := open Cert.KernelIdeal Cert.KernelIdeal.Gen in (extractStridedSlice S1x16x16 ![2, 0, 0] · slices_S3x16x16_S1x16x16_2_0_0)) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part14 (List.getElem_mem (l := Cert.ReferenceIdeal.Hand.ops_part14 (F := Ideal)) (n := 22) (by decide))) rfl rfl (by decide) (x := Cert.ReferenceIdeal.main_arg7) (y := Cert.ReferenceIdeal.main_v711) (f := open Cert.ReferenceIdeal Cert.ReferenceIdeal.Gen in (extractStridedSlice S1x16x16 ![2, 0, 0] · slices_S3x16x16_S1x16x16_2_0_0)) (hx := ⟨by decide, rfl⟩) (hy := ⟨by decide, rfl⟩)
  rw [hk, hr, ← c_main_arg7__main_arg7 hag hel]

theorem c_main_v116__main_v712 : StableHlo.after Cert.KernelIdeal.Hand.KOps (Cert.KernelIdeal.Hand.Wl (F := Ideal) m ρ c) (Proc.devRef .tc Cert.KernelIdeal.main_v116) = StableHlo.after (Cert.ReferenceIdeal.Hand.ops (F := Ideal)) (StableHlo.launchContents m' c) (Proc.devRef .tc Cert.ReferenceIdeal.main_v712) := by
  have hk := StableHlo.Ascending.eq_reshape Cert.KernelIdeal.Hand.KOps_asc (Cert.KernelIdeal.Hand.Wl m ρ c) (Cert.KernelIdeal.Hand.mem_KOps_st5 (Cert.KernelIdeal.Hand.mem_st_5 (List.getElem_mem (l := Cert.KernelIdeal.GenP.hostOps5 (F := Ideal)) (n := 81) (by decide)))) rfl rfl (by decide) (x := Cert.KernelIdeal.main_v115) (y := Cert.KernelIdeal.main_v116) (he := rfl) (hn := Cert.KernelIdeal.Gen.shapeCasts_S1x16x16_S16x16) (hx := ⟨by decide, rfl⟩) (hy := ⟨by decide, rfl⟩)
  have hr := StableHlo.Ascending.eq_reshape (Cert.ReferenceIdeal.Hand.ops_asc (F := Ideal)) (StableHlo.launchContents m' c) (Cert.ReferenceIdeal.Hand.mem_ops_part14 (List.getElem_mem (l := Cert.ReferenceIdeal.Hand.ops_part14 (F := Ideal)) (n := 23) (by decide))) rfl rfl (by decide) (x := Cert.ReferenceIdeal.main_v711) (y := Cert.ReferenceIdeal.main_v712) (he := rfl) (hn := Cert.ReferenceIdeal.Gen.shapeCasts_S1x16x16_S16x16) (hx := ⟨by decide, rfl⟩) (hy := ⟨by decide, rfl⟩)
  rw [hk, hr, ← c_main_v115__main_v711 hag hel]
  rfl

theorem c_main_v117__main_v713 : StableHlo.after Cert.KernelIdeal.Hand.KOps (Cert.KernelIdeal.Hand.Wl (F := Ideal) m ρ c) (Proc.devRef .tc Cert.KernelIdeal.main_v117) = StableHlo.after (Cert.ReferenceIdeal.Hand.ops (F := Ideal)) (StableHlo.launchContents m' c) (Proc.devRef .tc Cert.ReferenceIdeal.main_v713) := by
  have hk := StableHlo.Ascending.eq_binary Cert.KernelIdeal.Hand.KOps_asc (Cert.KernelIdeal.Hand.Wl m ρ c) (Cert.KernelIdeal.Hand.mem_KOps_st5 (Cert.KernelIdeal.Hand.mem_st_5 (List.getElem_mem (l := Cert.KernelIdeal.GenP.hostOps5 (F := Ideal)) (n := 82) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part14 (List.getElem_mem (l := Cert.ReferenceIdeal.Hand.ops_part14 (F := Ideal)) (n := 24) (by decide))) rfl rfl rfl (by decide) (by decide) (ha := ⟨by decide, rfl⟩) (hb := ⟨by decide, rfl⟩) (hy := ⟨by decide, rfl⟩)
  rw [hk, hr, ← c_main_v111__main_v707 hag hel, ← c_main_v85__main_v184 hag hel]

theorem c_main_v118__main_v714 : StableHlo.after Cert.KernelIdeal.Hand.KOps (Cert.KernelIdeal.Hand.Wl (F := Ideal) m ρ c) (Proc.devRef .tc Cert.KernelIdeal.main_v118) = StableHlo.after (Cert.ReferenceIdeal.Hand.ops (F := Ideal)) (StableHlo.launchContents m' c) (Proc.devRef .tc Cert.ReferenceIdeal.main_v714) := by
  have hk := StableHlo.Ascending.eq_binary Cert.KernelIdeal.Hand.KOps_asc (Cert.KernelIdeal.Hand.Wl m ρ c) (Cert.KernelIdeal.Hand.mem_KOps_st5 (Cert.KernelIdeal.Hand.mem_st_5 (List.getElem_mem (l := Cert.KernelIdeal.GenP.hostOps5 (F := Ideal)) (n := 83) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part14 (List.getElem_mem (l := Cert.ReferenceIdeal.Hand.ops_part14 (F := Ideal)) (n := 25) (by decide))) rfl rfl rfl (by decide) (by decide) (ha := ⟨by decide, rfl⟩) (hb := ⟨by decide, rfl⟩) (hy := ⟨by decide, rfl⟩)
  rw [hk, hr, ← c_main_v116__main_v712 hag hel, ← c_main_v117__main_v713 hag hel]
  rfl

theorem c_main_v119__main_v715 : StableHlo.after Cert.KernelIdeal.Hand.KOps (Cert.KernelIdeal.Hand.Wl (F := Ideal) m ρ c) (Proc.devRef .tc Cert.KernelIdeal.main_v119) = StableHlo.after (Cert.ReferenceIdeal.Hand.ops (F := Ideal)) (StableHlo.launchContents m' c) (Proc.devRef .tc Cert.ReferenceIdeal.main_v715) := by
  have hk := StableHlo.Ascending.eq_binary Cert.KernelIdeal.Hand.KOps_asc (Cert.KernelIdeal.Hand.Wl m ρ c) (Cert.KernelIdeal.Hand.mem_KOps_st5 (Cert.KernelIdeal.Hand.mem_st_5 (List.getElem_mem (l := Cert.KernelIdeal.GenP.hostOps5 (F := Ideal)) (n := 84) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part14 (List.getElem_mem (l := Cert.ReferenceIdeal.Hand.ops_part14 (F := Ideal)) (n := 26) (by decide))) rfl rfl rfl (by decide) (by decide) (ha := ⟨by decide, rfl⟩) (hb := ⟨by decide, rfl⟩) (hy := ⟨by decide, rfl⟩)
  rw [hk, hr, ← c_main_v114__main_v710 hag hel, ← c_main_v118__main_v714 hag hel]

theorem c_main_v120__main_v716 : StableHlo.after Cert.KernelIdeal.Hand.KOps (Cert.KernelIdeal.Hand.Wl (F := Ideal) m ρ c) (Proc.devRef .tc Cert.KernelIdeal.main_v120) = StableHlo.after (Cert.ReferenceIdeal.Hand.ops (F := Ideal)) (StableHlo.launchContents m' c) (Proc.devRef .tc Cert.ReferenceIdeal.main_v716) := by
  have hk := StableHlo.Ascending.eq_unary Cert.KernelIdeal.Hand.KOps_asc (Cert.KernelIdeal.Hand.Wl m ρ c) (Cert.KernelIdeal.Hand.mem_KOps_st5 (Cert.KernelIdeal.Hand.mem_st_5 (List.getElem_mem (l := Cert.KernelIdeal.GenP.hostOps5 (F := Ideal)) (n := 85) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part14 (List.getElem_mem (l := Cert.ReferenceIdeal.Hand.ops_part14 (F := Ideal)) (n := 27) (by decide))) rfl rfl (by decide) (hx := ⟨by decide, rfl⟩) (hy := ⟨by decide, rfl⟩)
  rw [hk, hr, ← c_main_v119__main_v715 hag hel]

theorem c_main_cst_18__main_cst_149 : StableHlo.after Cert.KernelIdeal.Hand.KOps (Cert.KernelIdeal.Hand.Wl (F := Ideal) m ρ c) (Proc.devRef .tc Cert.KernelIdeal.main_cst_18) = StableHlo.after (Cert.ReferenceIdeal.Hand.ops (F := Ideal)) (StableHlo.launchContents m' c) (Proc.devRef .tc Cert.ReferenceIdeal.main_cst_149) := by
  have hk := StableHlo.Ascending.eq_nullary Cert.KernelIdeal.Hand.KOps_asc (Cert.KernelIdeal.Hand.Wl m ρ c) (Cert.KernelIdeal.Hand.mem_KOps_st5 (Cert.KernelIdeal.Hand.mem_st_5 (List.getElem_mem (l := Cert.KernelIdeal.GenP.hostOps5 (F := Ideal)) (n := 86) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part14 (List.getElem_mem (l := Cert.ReferenceIdeal.Hand.ops_part14 (F := Ideal)) (n := 28) (by decide))) rfl (hy := ⟨by decide, rfl⟩)
  rw [hk, hr]

theorem c_main_v121__main_v717 : StableHlo.after Cert.KernelIdeal.Hand.KOps (Cert.KernelIdeal.Hand.Wl (F := Ideal) m ρ c) (Proc.devRef .tc Cert.KernelIdeal.main_v121) = StableHlo.after (Cert.ReferenceIdeal.Hand.ops (F := Ideal)) (StableHlo.launchContents m' c) (Proc.devRef .tc Cert.ReferenceIdeal.main_v717) := by
  have hk := StableHlo.Ascending.eq_unary Cert.KernelIdeal.Hand.KOps_asc (Cert.KernelIdeal.Hand.Wl m ρ c) (Cert.KernelIdeal.Hand.mem_KOps_st5 (Cert.KernelIdeal.Hand.mem_st_5 (List.getElem_mem (l := Cert.KernelIdeal.GenP.hostOps5 (F := Ideal)) (n := 87) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part14 (List.getElem_mem (l := Cert.ReferenceIdeal.Hand.ops_part14 (F := Ideal)) (n := 29) (by decide))) rfl rfl (by decide) (hx := ⟨by decide, rfl⟩) (hy := ⟨by decide, rfl⟩)
  rw [hk, hr, ← c_main_cst_18__main_cst_149 hag hel]

theorem c_main_v122__main_v718 : StableHlo.after Cert.KernelIdeal.Hand.KOps (Cert.KernelIdeal.Hand.Wl (F := Ideal) m ρ c) (Proc.devRef .tc Cert.KernelIdeal.main_v122) = StableHlo.after (Cert.ReferenceIdeal.Hand.ops (F := Ideal)) (StableHlo.launchContents m' c) (Proc.devRef .tc Cert.ReferenceIdeal.main_v718) := by
  have hk := StableHlo.Ascending.eq_binary Cert.KernelIdeal.Hand.KOps_asc (Cert.KernelIdeal.Hand.Wl m ρ c) (Cert.KernelIdeal.Hand.mem_KOps_st5 (Cert.KernelIdeal.Hand.mem_st_5 (List.getElem_mem (l := Cert.KernelIdeal.GenP.hostOps5 (F := Ideal)) (n := 88) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part14 (List.getElem_mem (l := Cert.ReferenceIdeal.Hand.ops_part14 (F := Ideal)) (n := 30) (by decide))) rfl rfl rfl (by decide) (by decide) (ha := ⟨by decide, rfl⟩) (hb := ⟨by decide, rfl⟩) (hy := ⟨by decide, rfl⟩)
  rw [hk, hr, ← c_main_v121__main_v717 hag hel, ← c_main_v98__main_v694 hag hel]

theorem c_main_v123__main_v719 : StableHlo.after Cert.KernelIdeal.Hand.KOps (Cert.KernelIdeal.Hand.Wl (F := Ideal) m ρ c) (Proc.devRef .tc Cert.KernelIdeal.main_v123) = StableHlo.after (Cert.ReferenceIdeal.Hand.ops (F := Ideal)) (StableHlo.launchContents m' c) (Proc.devRef .tc Cert.ReferenceIdeal.main_v719) := by
  have hk := StableHlo.Ascending.eq_binary Cert.KernelIdeal.Hand.KOps_asc (Cert.KernelIdeal.Hand.Wl m ρ c) (Cert.KernelIdeal.Hand.mem_KOps_st5 (Cert.KernelIdeal.Hand.mem_st_5 (List.getElem_mem (l := Cert.KernelIdeal.GenP.hostOps5 (F := Ideal)) (n := 89) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part14 (List.getElem_mem (l := Cert.ReferenceIdeal.Hand.ops_part14 (F := Ideal)) (n := 31) (by decide))) rfl rfl rfl (by decide) (by decide) (ha := ⟨by decide, rfl⟩) (hb := ⟨by decide, rfl⟩) (hy := ⟨by decide, rfl⟩)
  rw [hk, hr, ← c_main_v122__main_v718 hag hel, ← c_main_v85__main_v184 hag hel]

theorem c_main_v124__main_v720 : StableHlo.after Cert.KernelIdeal.Hand.KOps (Cert.KernelIdeal.Hand.Wl (F := Ideal) m ρ c) (Proc.devRef .tc Cert.KernelIdeal.main_v124) = StableHlo.after (Cert.ReferenceIdeal.Hand.ops (F := Ideal)) (StableHlo.launchContents m' c) (Proc.devRef .tc Cert.ReferenceIdeal.main_v720) := by
  have hk := StableHlo.Ascending.eq_binary Cert.KernelIdeal.Hand.KOps_asc (Cert.KernelIdeal.Hand.Wl m ρ c) (Cert.KernelIdeal.Hand.mem_KOps_st5 (Cert.KernelIdeal.Hand.mem_st_5 (List.getElem_mem (l := Cert.KernelIdeal.GenP.hostOps5 (F := Ideal)) (n := 90) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part14 (List.getElem_mem (l := Cert.ReferenceIdeal.Hand.ops_part14 (F := Ideal)) (n := 32) (by decide))) rfl rfl rfl (by decide) (by decide) (ha := ⟨by decide, rfl⟩) (hb := ⟨by decide, rfl⟩) (hy := ⟨by decide, rfl⟩)
  rw [hk, hr, ← c_main_v98__main_v694 hag hel, ← c_main_v120__main_v716 hag hel]

theorem c_main_v125__main_v721 : StableHlo.after Cert.KernelIdeal.Hand.KOps (Cert.KernelIdeal.Hand.Wl (F := Ideal) m ρ c) (Proc.devRef .tc Cert.KernelIdeal.main_v125) = StableHlo.after (Cert.ReferenceIdeal.Hand.ops (F := Ideal)) (StableHlo.launchContents m' c) (Proc.devRef .tc Cert.ReferenceIdeal.main_v721) := by
  have hk := StableHlo.Ascending.eq_binary Cert.KernelIdeal.Hand.KOps_asc (Cert.KernelIdeal.Hand.Wl m ρ c) (Cert.KernelIdeal.Hand.mem_KOps_st5 (Cert.KernelIdeal.Hand.mem_st_5 (List.getElem_mem (l := Cert.KernelIdeal.GenP.hostOps5 (F := Ideal)) (n := 91) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part14 (List.getElem_mem (l := Cert.ReferenceIdeal.Hand.ops_part14 (F := Ideal)) (n := 33) (by decide))) rfl rfl rfl (by decide) (by decide) (ha := ⟨by decide, rfl⟩) (hb := ⟨by decide, rfl⟩) (hy := ⟨by decide, rfl⟩)
  rw [hk, hr, ← c_main_v123__main_v719 hag hel, ← c_main_v124__main_v720 hag hel]

theorem c_main_v126__main_v1219 : StableHlo.after Cert.KernelIdeal.Hand.KOps (Cert.KernelIdeal.Hand.Wl (F := Ideal) m ρ c) (Proc.devRef .tc Cert.KernelIdeal.main_v126) = StableHlo.after (Cert.ReferenceIdeal.Hand.ops (F := Ideal)) (StableHlo.launchContents m' c) (Proc.devRef .tc Cert.ReferenceIdeal.main_v1219) := by
  have hk := StableHlo.Ascending.eq_unary Cert.KernelIdeal.Hand.KOps_asc (Cert.KernelIdeal.Hand.Wl m ρ c) (Cert.KernelIdeal.Hand.mem_KOps_st5 (Cert.KernelIdeal.Hand.mem_st_5 (List.getElem_mem (l := Cert.KernelIdeal.GenP.hostOps5 (F := Ideal)) (n := 92) (by decide)))) rfl rfl (by decide) (x := Cert.KernelIdeal.main_arg6) (y := Cert.KernelIdeal.main_v126) (f := open Cert.KernelIdeal Cert.KernelIdeal.Gen in (extractStridedSlice S1x16x16 ![0, 0, 0] · slices_S3x16x16_S1x16x16_0_0_0)) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part24 (List.getElem_mem (l := Cert.ReferenceIdeal.Hand.ops_part24 (F := Ideal)) (n := 65) (by decide))) rfl rfl (by decide) (x := Cert.ReferenceIdeal.main_arg6) (y := Cert.ReferenceIdeal.main_v1219) (f := open Cert.ReferenceIdeal Cert.ReferenceIdeal.Gen in (extractStridedSlice S1x16x16 ![0, 0, 0] · slices_S3x16x16_S1x16x16_0_0_0)) (hx := ⟨by decide, rfl⟩) (hy := ⟨by decide, rfl⟩)
  rw [hk, hr, ← c_main_arg6__main_arg6 hag hel]

theorem c_main_v127__main_v1220 : StableHlo.after Cert.KernelIdeal.Hand.KOps (Cert.KernelIdeal.Hand.Wl (F := Ideal) m ρ c) (Proc.devRef .tc Cert.KernelIdeal.main_v127) = StableHlo.after (Cert.ReferenceIdeal.Hand.ops (F := Ideal)) (StableHlo.launchContents m' c) (Proc.devRef .tc Cert.ReferenceIdeal.main_v1220) := by
  have hk := StableHlo.Ascending.eq_reshape Cert.KernelIdeal.Hand.KOps_asc (Cert.KernelIdeal.Hand.Wl m ρ c) (Cert.KernelIdeal.Hand.mem_KOps_st5 (Cert.KernelIdeal.Hand.mem_st_5 (List.getElem_mem (l := Cert.KernelIdeal.GenP.hostOps5 (F := Ideal)) (n := 93) (by decide)))) rfl rfl (by decide) (x := Cert.KernelIdeal.main_v126) (y := Cert.KernelIdeal.main_v127) (he := rfl) (hn := Cert.KernelIdeal.Gen.shapeCasts_S1x16x16_S16x16) (hx := ⟨by decide, rfl⟩) (hy := ⟨by decide, rfl⟩)
  have hr := StableHlo.Ascending.eq_reshape (Cert.ReferenceIdeal.Hand.ops_asc (F := Ideal)) (StableHlo.launchContents m' c) (Cert.ReferenceIdeal.Hand.mem_ops_part24 (List.getElem_mem (l := Cert.ReferenceIdeal.Hand.ops_part24 (F := Ideal)) (n := 66) (by decide))) rfl rfl (by decide) (x := Cert.ReferenceIdeal.main_v1219) (y := Cert.ReferenceIdeal.main_v1220) (he := rfl) (hn := Cert.ReferenceIdeal.Gen.shapeCasts_S1x16x16_S16x16) (hx := ⟨by decide, rfl⟩) (hy := ⟨by decide, rfl⟩)
  rw [hk, hr, ← c_main_v126__main_v1219 hag hel]
  rfl

theorem c_main_v128__main_v1221 : StableHlo.after Cert.KernelIdeal.Hand.KOps (Cert.KernelIdeal.Hand.Wl (F := Ideal) m ρ c) (Proc.devRef .tc Cert.KernelIdeal.main_v128) = StableHlo.after (Cert.ReferenceIdeal.Hand.ops (F := Ideal)) (StableHlo.launchContents m' c) (Proc.devRef .tc Cert.ReferenceIdeal.main_v1221) := by
  have hk := StableHlo.Ascending.eq_binary Cert.KernelIdeal.Hand.KOps_asc (Cert.KernelIdeal.Hand.Wl m ρ c) (Cert.KernelIdeal.Hand.mem_KOps_st5 (Cert.KernelIdeal.Hand.mem_st_5 (List.getElem_mem (l := Cert.KernelIdeal.GenP.hostOps5 (F := Ideal)) (n := 94) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part24 (List.getElem_mem (l := Cert.ReferenceIdeal.Hand.ops_part24 (F := Ideal)) (n := 67) (by decide))) rfl rfl rfl (by decide) (by decide) (ha := ⟨by decide, rfl⟩) (hb := ⟨by decide, rfl⟩) (hy := ⟨by decide, rfl⟩)
  rw [hk, hr, ← c_main_v127__main_v1220 hag hel, ← c_main_v125__main_v721 hag hel]
  rfl

theorem c_main_v129__main_v1222 : StableHlo.after Cert.KernelIdeal.Hand.KOps (Cert.KernelIdeal.Hand.Wl (F := Ideal) m ρ c) (Proc.devRef .tc Cert.KernelIdeal.main_v129) = StableHlo.after (Cert.ReferenceIdeal.Hand.ops (F := Ideal)) (StableHlo.launchContents m' c) (Proc.devRef .tc Cert.ReferenceIdeal.main_v1222) := by
  have hk := StableHlo.Ascending.eq_unary Cert.KernelIdeal.Hand.KOps_asc (Cert.KernelIdeal.Hand.Wl m ρ c) (Cert.KernelIdeal.Hand.mem_KOps_st5 (Cert.KernelIdeal.Hand.mem_st_5 (List.getElem_mem (l := Cert.KernelIdeal.GenP.hostOps5 (F := Ideal)) (n := 95) (by decide)))) rfl rfl (by decide) (x := Cert.KernelIdeal.main_arg7) (y := Cert.KernelIdeal.main_v129) (f := open Cert.KernelIdeal Cert.KernelIdeal.Gen in (extractStridedSlice S1x16x16 ![0, 0, 0] · slices_S3x16x16_S1x16x16_0_0_0)) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part24 (List.getElem_mem (l := Cert.ReferenceIdeal.Hand.ops_part24 (F := Ideal)) (n := 68) (by decide))) rfl rfl (by decide) (x := Cert.ReferenceIdeal.main_arg7) (y := Cert.ReferenceIdeal.main_v1222) (f := open Cert.ReferenceIdeal Cert.ReferenceIdeal.Gen in (extractStridedSlice S1x16x16 ![0, 0, 0] · slices_S3x16x16_S1x16x16_0_0_0)) (hx := ⟨by decide, rfl⟩) (hy := ⟨by decide, rfl⟩)
  rw [hk, hr, ← c_main_arg7__main_arg7 hag hel]

theorem c_main_v130__main_v1223 : StableHlo.after Cert.KernelIdeal.Hand.KOps (Cert.KernelIdeal.Hand.Wl (F := Ideal) m ρ c) (Proc.devRef .tc Cert.KernelIdeal.main_v130) = StableHlo.after (Cert.ReferenceIdeal.Hand.ops (F := Ideal)) (StableHlo.launchContents m' c) (Proc.devRef .tc Cert.ReferenceIdeal.main_v1223) := by
  have hk := StableHlo.Ascending.eq_reshape Cert.KernelIdeal.Hand.KOps_asc (Cert.KernelIdeal.Hand.Wl m ρ c) (Cert.KernelIdeal.Hand.mem_KOps_st5 (Cert.KernelIdeal.Hand.mem_st_5 (List.getElem_mem (l := Cert.KernelIdeal.GenP.hostOps5 (F := Ideal)) (n := 96) (by decide)))) rfl rfl (by decide) (x := Cert.KernelIdeal.main_v129) (y := Cert.KernelIdeal.main_v130) (he := rfl) (hn := Cert.KernelIdeal.Gen.shapeCasts_S1x16x16_S16x16) (hx := ⟨by decide, rfl⟩) (hy := ⟨by decide, rfl⟩)
  have hr := StableHlo.Ascending.eq_reshape (Cert.ReferenceIdeal.Hand.ops_asc (F := Ideal)) (StableHlo.launchContents m' c) (Cert.ReferenceIdeal.Hand.mem_ops_part24 (List.getElem_mem (l := Cert.ReferenceIdeal.Hand.ops_part24 (F := Ideal)) (n := 69) (by decide))) rfl rfl (by decide) (x := Cert.ReferenceIdeal.main_v1222) (y := Cert.ReferenceIdeal.main_v1223) (he := rfl) (hn := Cert.ReferenceIdeal.Gen.shapeCasts_S1x16x16_S16x16) (hx := ⟨by decide, rfl⟩) (hy := ⟨by decide, rfl⟩)
  rw [hk, hr, ← c_main_v129__main_v1222 hag hel]
  rfl

theorem c_main_v131__main_v1224 : StableHlo.after Cert.KernelIdeal.Hand.KOps (Cert.KernelIdeal.Hand.Wl (F := Ideal) m ρ c) (Proc.devRef .tc Cert.KernelIdeal.main_v131) = StableHlo.after (Cert.ReferenceIdeal.Hand.ops (F := Ideal)) (StableHlo.launchContents m' c) (Proc.devRef .tc Cert.ReferenceIdeal.main_v1224) := by
  have hk := StableHlo.Ascending.eq_binary Cert.KernelIdeal.Hand.KOps_asc (Cert.KernelIdeal.Hand.Wl m ρ c) (Cert.KernelIdeal.Hand.mem_KOps_st5 (Cert.KernelIdeal.Hand.mem_st_5 (List.getElem_mem (l := Cert.KernelIdeal.GenP.hostOps5 (F := Ideal)) (n := 97) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part24 (List.getElem_mem (l := Cert.ReferenceIdeal.Hand.ops_part24 (F := Ideal)) (n := 70) (by decide))) rfl rfl rfl (by decide) (by decide) (ha := ⟨by decide, rfl⟩) (hb := ⟨by decide, rfl⟩) (hy := ⟨by decide, rfl⟩)
  rw [hk, hr, ← c_main_v130__main_v1223 hag hel, ← c_main_v125__main_v721 hag hel]
  rfl

theorem c_main_v132__main_v1225 : StableHlo.after Cert.KernelIdeal.Hand.KOps (Cert.KernelIdeal.Hand.Wl (F := Ideal) m ρ c) (Proc.devRef .tc Cert.KernelIdeal.main_v132) = StableHlo.after (Cert.ReferenceIdeal.Hand.ops (F := Ideal)) (StableHlo.launchContents m' c) (Proc.devRef .tc Cert.ReferenceIdeal.main_v1225) := by
  have hk := StableHlo.Ascending.eq_binary Cert.KernelIdeal.Hand.KOps_asc (Cert.KernelIdeal.Hand.Wl m ρ c) (Cert.KernelIdeal.Hand.mem_KOps_st5 (Cert.KernelIdeal.Hand.mem_st_5 (List.getElem_mem (l := Cert.KernelIdeal.GenP.hostOps5 (F := Ideal)) (n := 98) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part24 (List.getElem_mem (l := Cert.ReferenceIdeal.Hand.ops_part24 (F := Ideal)) (n := 71) (by decide))) rfl rfl rfl (by decide) (by decide) (ha := ⟨by decide, rfl⟩) (hb := ⟨by decide, rfl⟩) (hy := ⟨by decide, rfl⟩)
  rw [hk, hr, ← c_main_v128__main_v1221 hag hel, ← c_main_v131__main_v1224 hag hel]

theorem c_main_v133__main_v1226 : StableHlo.after Cert.KernelIdeal.Hand.KOps (Cert.KernelIdeal.Hand.Wl (F := Ideal) m ρ c) (Proc.devRef .tc Cert.KernelIdeal.main_v133) = StableHlo.after (Cert.ReferenceIdeal.Hand.ops (F := Ideal)) (StableHlo.launchContents m' c) (Proc.devRef .tc Cert.ReferenceIdeal.main_v1226) := by
  have hk := StableHlo.Ascending.eq_unary Cert.KernelIdeal.Hand.KOps_asc (Cert.KernelIdeal.Hand.Wl m ρ c) (Cert.KernelIdeal.Hand.mem_KOps_st5 (Cert.KernelIdeal.Hand.mem_st_5 (List.getElem_mem (l := Cert.KernelIdeal.GenP.hostOps5 (F := Ideal)) (n := 99) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part24 (List.getElem_mem (l := Cert.ReferenceIdeal.Hand.ops_part24 (F := Ideal)) (n := 72) (by decide))) rfl rfl (by decide) (hx := ⟨by decide, rfl⟩) (hy := ⟨by decide, rfl⟩)
  rw [hk, hr, ← c_main_v132__main_v1225 hag hel]

theorem c_main_v134__main_v1227 : StableHlo.after Cert.KernelIdeal.Hand.KOps (Cert.KernelIdeal.Hand.Wl (F := Ideal) m ρ c) (Proc.devRef .tc Cert.KernelIdeal.main_v134) = StableHlo.after (Cert.ReferenceIdeal.Hand.ops (F := Ideal)) (StableHlo.launchContents m' c) (Proc.devRef .tc Cert.ReferenceIdeal.main_v1227) := by
  have hk := StableHlo.Ascending.eq_unary Cert.KernelIdeal.Hand.KOps_asc (Cert.KernelIdeal.Hand.Wl m ρ c) (Cert.KernelIdeal.Hand.mem_KOps_st5 (Cert.KernelIdeal.Hand.mem_st_5 (List.getElem_mem (l := Cert.KernelIdeal.GenP.hostOps5 (F := Ideal)) (n := 100) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part24 (List.getElem_mem (l := Cert.ReferenceIdeal.Hand.ops_part24 (F := Ideal)) (n := 73) (by decide))) rfl rfl (by decide) (hx := ⟨by decide, rfl⟩) (hy := ⟨by decide, rfl⟩)
  rw [hk, hr, ← c_main_v133__main_v1226 hag hel]

theorem c_main_cst_19__main_cst_262 : StableHlo.after Cert.KernelIdeal.Hand.KOps (Cert.KernelIdeal.Hand.Wl (F := Ideal) m ρ c) (Proc.devRef .tc Cert.KernelIdeal.main_cst_19) = StableHlo.after (Cert.ReferenceIdeal.Hand.ops (F := Ideal)) (StableHlo.launchContents m' c) (Proc.devRef .tc Cert.ReferenceIdeal.main_cst_262) := by
  have hk := StableHlo.Ascending.eq_nullary Cert.KernelIdeal.Hand.KOps_asc (Cert.KernelIdeal.Hand.Wl m ρ c) (Cert.KernelIdeal.Hand.mem_KOps_st5 (Cert.KernelIdeal.Hand.mem_st_5 (List.getElem_mem (l := Cert.KernelIdeal.GenP.hostOps5 (F := Ideal)) (n := 101) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part24 (List.getElem_mem (l := Cert.ReferenceIdeal.Hand.ops_part24 (F := Ideal)) (n := 74) (by decide))) rfl (hy := ⟨by decide, rfl⟩)
  rw [hk, hr]

theorem c_main_v135__main_v1228 : StableHlo.after Cert.KernelIdeal.Hand.KOps (Cert.KernelIdeal.Hand.Wl (F := Ideal) m ρ c) (Proc.devRef .tc Cert.KernelIdeal.main_v135) = StableHlo.after (Cert.ReferenceIdeal.Hand.ops (F := Ideal)) (StableHlo.launchContents m' c) (Proc.devRef .tc Cert.ReferenceIdeal.main_v1228) := by
  have hk := StableHlo.Ascending.eq_unary Cert.KernelIdeal.Hand.KOps_asc (Cert.KernelIdeal.Hand.Wl m ρ c) (Cert.KernelIdeal.Hand.mem_KOps_st5 (Cert.KernelIdeal.Hand.mem_st_5 (List.getElem_mem (l := Cert.KernelIdeal.GenP.hostOps5 (F := Ideal)) (n := 102) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part24 (List.getElem_mem (l := Cert.ReferenceIdeal.Hand.ops_part24 (F := Ideal)) (n := 75) (by decide))) rfl rfl (by decide) (hx := ⟨by decide, rfl⟩) (hy := ⟨by decide, rfl⟩)
  rw [hk, hr, ← c_main_cst_19__main_cst_262 hag hel]

theorem c_main_v136__main_v1229 : StableHlo.after Cert.KernelIdeal.Hand.KOps (Cert.KernelIdeal.Hand.Wl (F := Ideal) m ρ c) (Proc.devRef .tc Cert.KernelIdeal.main_v136) = StableHlo.after (Cert.ReferenceIdeal.Hand.ops (F := Ideal)) (StableHlo.launchContents m' c) (Proc.devRef .tc Cert.ReferenceIdeal.main_v1229) := by
  have hk := StableHlo.Ascending.eq_binary Cert.KernelIdeal.Hand.KOps_asc (Cert.KernelIdeal.Hand.Wl m ρ c) (Cert.KernelIdeal.Hand.mem_KOps_st5 (Cert.KernelIdeal.Hand.mem_st_5 (List.getElem_mem (l := Cert.KernelIdeal.GenP.hostOps5 (F := Ideal)) (n := 103) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part24 (List.getElem_mem (l := Cert.ReferenceIdeal.Hand.ops_part24 (F := Ideal)) (n := 76) (by decide))) rfl rfl rfl (by decide) (by decide) (ha := ⟨by decide, rfl⟩) (hb := ⟨by decide, rfl⟩) (hy := ⟨by decide, rfl⟩)
  rw [hk, hr, ← c_main_v135__main_v1228 hag hel, ← c_main_v134__main_v1227 hag hel]

theorem c_main_cst_20__main_cst_263 : StableHlo.after Cert.KernelIdeal.Hand.KOps (Cert.KernelIdeal.Hand.Wl (F := Ideal) m ρ c) (Proc.devRef .tc Cert.KernelIdeal.main_cst_20) = StableHlo.after (Cert.ReferenceIdeal.Hand.ops (F := Ideal)) (StableHlo.launchContents m' c) (Proc.devRef .tc Cert.ReferenceIdeal.main_cst_263) := by
  have hk := StableHlo.Ascending.eq_nullary Cert.KernelIdeal.Hand.KOps_asc (Cert.KernelIdeal.Hand.Wl m ρ c) (Cert.KernelIdeal.Hand.mem_KOps_st5 (Cert.KernelIdeal.Hand.mem_st_5 (List.getElem_mem (l := Cert.KernelIdeal.GenP.hostOps5 (F := Ideal)) (n := 104) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part24 (List.getElem_mem (l := Cert.ReferenceIdeal.Hand.ops_part24 (F := Ideal)) (n := 77) (by decide))) rfl (hy := ⟨by decide, rfl⟩)
  rw [hk, hr]

theorem c_main_v137__main_v1230 : StableHlo.after Cert.KernelIdeal.Hand.KOps (Cert.KernelIdeal.Hand.Wl (F := Ideal) m ρ c) (Proc.devRef .tc Cert.KernelIdeal.main_v137) = StableHlo.after (Cert.ReferenceIdeal.Hand.ops (F := Ideal)) (StableHlo.launchContents m' c) (Proc.devRef .tc Cert.ReferenceIdeal.main_v1230) := by
  have hk := StableHlo.Ascending.eq_unary Cert.KernelIdeal.Hand.KOps_asc (Cert.KernelIdeal.Hand.Wl m ρ c) (Cert.KernelIdeal.Hand.mem_KOps_st5 (Cert.KernelIdeal.Hand.mem_st_5 (List.getElem_mem (l := Cert.KernelIdeal.GenP.hostOps5 (F := Ideal)) (n := 105) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part24 (List.getElem_mem (l := Cert.ReferenceIdeal.Hand.ops_part24 (F := Ideal)) (n := 78) (by decide))) rfl rfl (by decide) (hx := ⟨by decide, rfl⟩) (hy := ⟨by decide, rfl⟩)
  rw [hk, hr, ← c_main_cst_20__main_cst_263 hag hel]

theorem c_main_v138__main_v1231 : StableHlo.after Cert.KernelIdeal.Hand.KOps (Cert.KernelIdeal.Hand.Wl (F := Ideal) m ρ c) (Proc.devRef .tc Cert.KernelIdeal.main_v138) = StableHlo.after (Cert.ReferenceIdeal.Hand.ops (F := Ideal)) (StableHlo.launchContents m' c) (Proc.devRef .tc Cert.ReferenceIdeal.main_v1231) := by
  have hk := StableHlo.Ascending.eq_binary Cert.KernelIdeal.Hand.KOps_asc (Cert.KernelIdeal.Hand.Wl m ρ c) (Cert.KernelIdeal.Hand.mem_KOps_st5 (Cert.KernelIdeal.Hand.mem_st_5 (List.getElem_mem (l := Cert.KernelIdeal.GenP.hostOps5 (F := Ideal)) (n := 106) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part24 (List.getElem_mem (l := Cert.ReferenceIdeal.Hand.ops_part24 (F := Ideal)) (n := 79) (by decide))) rfl rfl rfl (by decide) (by decide) (ha := ⟨by decide, rfl⟩) (hb := ⟨by decide, rfl⟩) (hy := ⟨by decide, rfl⟩)
  rw [hk, hr, ← c_main_v137__main_v1230 hag hel, ← c_main_v136__main_v1229 hag hel]

theorem c_main_v139__main_v1232 : StableHlo.after Cert.KernelIdeal.Hand.KOps (Cert.KernelIdeal.Hand.Wl (F := Ideal) m ρ c) (Proc.devRef .tc Cert.KernelIdeal.main_v139) = StableHlo.after (Cert.ReferenceIdeal.Hand.ops (F := Ideal)) (StableHlo.launchContents m' c) (Proc.devRef .tc Cert.ReferenceIdeal.main_v1232) := by
  have hk := StableHlo.Ascending.eq_unary Cert.KernelIdeal.Hand.KOps_asc (Cert.KernelIdeal.Hand.Wl m ρ c) (Cert.KernelIdeal.Hand.mem_KOps_st5 (Cert.KernelIdeal.Hand.mem_st_5 (List.getElem_mem (l := Cert.KernelIdeal.GenP.hostOps5 (F := Ideal)) (n := 107) (by decide)))) rfl rfl (by decide) (x := Cert.KernelIdeal.main_arg6) (y := Cert.KernelIdeal.main_v139) (f := open Cert.KernelIdeal Cert.KernelIdeal.Gen in (extractStridedSlice S1x16x16 ![1, 0, 0] · slices_S3x16x16_S1x16x16_1_0_0)) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part24 (List.getElem_mem (l := Cert.ReferenceIdeal.Hand.ops_part24 (F := Ideal)) (n := 80) (by decide))) rfl rfl (by decide) (x := Cert.ReferenceIdeal.main_arg6) (y := Cert.ReferenceIdeal.main_v1232) (f := open Cert.ReferenceIdeal Cert.ReferenceIdeal.Gen in (extractStridedSlice S1x16x16 ![1, 0, 0] · slices_S3x16x16_S1x16x16_1_0_0)) (hx := ⟨by decide, rfl⟩) (hy := ⟨by decide, rfl⟩)
  rw [hk, hr, ← c_main_arg6__main_arg6 hag hel]

theorem c_main_v140__main_v1233 : StableHlo.after Cert.KernelIdeal.Hand.KOps (Cert.KernelIdeal.Hand.Wl (F := Ideal) m ρ c) (Proc.devRef .tc Cert.KernelIdeal.main_v140) = StableHlo.after (Cert.ReferenceIdeal.Hand.ops (F := Ideal)) (StableHlo.launchContents m' c) (Proc.devRef .tc Cert.ReferenceIdeal.main_v1233) := by
  have hk := StableHlo.Ascending.eq_reshape Cert.KernelIdeal.Hand.KOps_asc (Cert.KernelIdeal.Hand.Wl m ρ c) (Cert.KernelIdeal.Hand.mem_KOps_st5 (Cert.KernelIdeal.Hand.mem_st_5 (List.getElem_mem (l := Cert.KernelIdeal.GenP.hostOps5 (F := Ideal)) (n := 108) (by decide)))) rfl rfl (by decide) (x := Cert.KernelIdeal.main_v139) (y := Cert.KernelIdeal.main_v140) (he := rfl) (hn := Cert.KernelIdeal.Gen.shapeCasts_S1x16x16_S16x16) (hx := ⟨by decide, rfl⟩) (hy := ⟨by decide, rfl⟩)
  have hr := StableHlo.Ascending.eq_reshape (Cert.ReferenceIdeal.Hand.ops_asc (F := Ideal)) (StableHlo.launchContents m' c) (Cert.ReferenceIdeal.Hand.mem_ops_part24 (List.getElem_mem (l := Cert.ReferenceIdeal.Hand.ops_part24 (F := Ideal)) (n := 81) (by decide))) rfl rfl (by decide) (x := Cert.ReferenceIdeal.main_v1232) (y := Cert.ReferenceIdeal.main_v1233) (he := rfl) (hn := Cert.ReferenceIdeal.Gen.shapeCasts_S1x16x16_S16x16) (hx := ⟨by decide, rfl⟩) (hy := ⟨by decide, rfl⟩)
  rw [hk, hr, ← c_main_v139__main_v1232 hag hel]
  rfl

theorem c_main_v141__main_v1234 : StableHlo.after Cert.KernelIdeal.Hand.KOps (Cert.KernelIdeal.Hand.Wl (F := Ideal) m ρ c) (Proc.devRef .tc Cert.KernelIdeal.main_v141) = StableHlo.after (Cert.ReferenceIdeal.Hand.ops (F := Ideal)) (StableHlo.launchContents m' c) (Proc.devRef .tc Cert.ReferenceIdeal.main_v1234) := by
  have hk := StableHlo.Ascending.eq_binary Cert.KernelIdeal.Hand.KOps_asc (Cert.KernelIdeal.Hand.Wl m ρ c) (Cert.KernelIdeal.Hand.mem_KOps_st5 (Cert.KernelIdeal.Hand.mem_st_5 (List.getElem_mem (l := Cert.KernelIdeal.GenP.hostOps5 (F := Ideal)) (n := 109) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part25 (List.getElem_mem (l := Cert.ReferenceIdeal.Hand.ops_part25 (F := Ideal)) (n := 0) (by decide))) rfl rfl rfl (by decide) (by decide) (ha := ⟨by decide, rfl⟩) (hb := ⟨by decide, rfl⟩) (hy := ⟨by decide, rfl⟩)
  rw [hk, hr, ← c_main_v140__main_v1233 hag hel, ← c_main_v125__main_v721 hag hel]
  rfl

theorem c_main_v142__main_v1235 : StableHlo.after Cert.KernelIdeal.Hand.KOps (Cert.KernelIdeal.Hand.Wl (F := Ideal) m ρ c) (Proc.devRef .tc Cert.KernelIdeal.main_v142) = StableHlo.after (Cert.ReferenceIdeal.Hand.ops (F := Ideal)) (StableHlo.launchContents m' c) (Proc.devRef .tc Cert.ReferenceIdeal.main_v1235) := by
  have hk := StableHlo.Ascending.eq_unary Cert.KernelIdeal.Hand.KOps_asc (Cert.KernelIdeal.Hand.Wl m ρ c) (Cert.KernelIdeal.Hand.mem_KOps_st5 (Cert.KernelIdeal.Hand.mem_st_5 (List.getElem_mem (l := Cert.KernelIdeal.GenP.hostOps5 (F := Ideal)) (n := 110) (by decide)))) rfl rfl (by decide) (x := Cert.KernelIdeal.main_arg7) (y := Cert.KernelIdeal.main_v142) (f := open Cert.KernelIdeal Cert.KernelIdeal.Gen in (extractStridedSlice S1x16x16 ![1, 0, 0] · slices_S3x16x16_S1x16x16_1_0_0)) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part25 (List.getElem_mem (l := Cert.ReferenceIdeal.Hand.ops_part25 (F := Ideal)) (n := 1) (by decide))) rfl rfl (by decide) (x := Cert.ReferenceIdeal.main_arg7) (y := Cert.ReferenceIdeal.main_v1235) (f := open Cert.ReferenceIdeal Cert.ReferenceIdeal.Gen in (extractStridedSlice S1x16x16 ![1, 0, 0] · slices_S3x16x16_S1x16x16_1_0_0)) (hx := ⟨by decide, rfl⟩) (hy := ⟨by decide, rfl⟩)
  rw [hk, hr, ← c_main_arg7__main_arg7 hag hel]

theorem c_main_v143__main_v1236 : StableHlo.after Cert.KernelIdeal.Hand.KOps (Cert.KernelIdeal.Hand.Wl (F := Ideal) m ρ c) (Proc.devRef .tc Cert.KernelIdeal.main_v143) = StableHlo.after (Cert.ReferenceIdeal.Hand.ops (F := Ideal)) (StableHlo.launchContents m' c) (Proc.devRef .tc Cert.ReferenceIdeal.main_v1236) := by
  have hk := StableHlo.Ascending.eq_reshape Cert.KernelIdeal.Hand.KOps_asc (Cert.KernelIdeal.Hand.Wl m ρ c) (Cert.KernelIdeal.Hand.mem_KOps_st5 (Cert.KernelIdeal.Hand.mem_st_5 (List.getElem_mem (l := Cert.KernelIdeal.GenP.hostOps5 (F := Ideal)) (n := 111) (by decide)))) rfl rfl (by decide) (x := Cert.KernelIdeal.main_v142) (y := Cert.KernelIdeal.main_v143) (he := rfl) (hn := Cert.KernelIdeal.Gen.shapeCasts_S1x16x16_S16x16) (hx := ⟨by decide, rfl⟩) (hy := ⟨by decide, rfl⟩)
  have hr := StableHlo.Ascending.eq_reshape (Cert.ReferenceIdeal.Hand.ops_asc (F := Ideal)) (StableHlo.launchContents m' c) (Cert.ReferenceIdeal.Hand.mem_ops_part25 (List.getElem_mem (l := Cert.ReferenceIdeal.Hand.ops_part25 (F := Ideal)) (n := 2) (by decide))) rfl rfl (by decide) (x := Cert.ReferenceIdeal.main_v1235) (y := Cert.ReferenceIdeal.main_v1236) (he := rfl) (hn := Cert.ReferenceIdeal.Gen.shapeCasts_S1x16x16_S16x16) (hx := ⟨by decide, rfl⟩) (hy := ⟨by decide, rfl⟩)
  rw [hk, hr, ← c_main_v142__main_v1235 hag hel]
  rfl

theorem c_main_v144__main_v1237 : StableHlo.after Cert.KernelIdeal.Hand.KOps (Cert.KernelIdeal.Hand.Wl (F := Ideal) m ρ c) (Proc.devRef .tc Cert.KernelIdeal.main_v144) = StableHlo.after (Cert.ReferenceIdeal.Hand.ops (F := Ideal)) (StableHlo.launchContents m' c) (Proc.devRef .tc Cert.ReferenceIdeal.main_v1237) := by
  have hk := StableHlo.Ascending.eq_binary Cert.KernelIdeal.Hand.KOps_asc (Cert.KernelIdeal.Hand.Wl m ρ c) (Cert.KernelIdeal.Hand.mem_KOps_st5 (Cert.KernelIdeal.Hand.mem_st_5 (List.getElem_mem (l := Cert.KernelIdeal.GenP.hostOps5 (F := Ideal)) (n := 112) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part25 (List.getElem_mem (l := Cert.ReferenceIdeal.Hand.ops_part25 (F := Ideal)) (n := 3) (by decide))) rfl rfl rfl (by decide) (by decide) (ha := ⟨by decide, rfl⟩) (hb := ⟨by decide, rfl⟩) (hy := ⟨by decide, rfl⟩)
  rw [hk, hr, ← c_main_v143__main_v1236 hag hel, ← c_main_v125__main_v721 hag hel]
  rfl

theorem c_main_v145__main_v1238 : StableHlo.after Cert.KernelIdeal.Hand.KOps (Cert.KernelIdeal.Hand.Wl (F := Ideal) m ρ c) (Proc.devRef .tc Cert.KernelIdeal.main_v145) = StableHlo.after (Cert.ReferenceIdeal.Hand.ops (F := Ideal)) (StableHlo.launchContents m' c) (Proc.devRef .tc Cert.ReferenceIdeal.main_v1238) := by
  have hk := StableHlo.Ascending.eq_binary Cert.KernelIdeal.Hand.KOps_asc (Cert.KernelIdeal.Hand.Wl m ρ c) (Cert.KernelIdeal.Hand.mem_KOps_st5 (Cert.KernelIdeal.Hand.mem_st_5 (List.getElem_mem (l := Cert.KernelIdeal.GenP.hostOps5 (F := Ideal)) (n := 113) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part25 (List.getElem_mem (l := Cert.ReferenceIdeal.Hand.ops_part25 (F := Ideal)) (n := 4) (by decide))) rfl rfl rfl (by decide) (by decide) (ha := ⟨by decide, rfl⟩) (hb := ⟨by decide, rfl⟩) (hy := ⟨by decide, rfl⟩)
  rw [hk, hr, ← c_main_v141__main_v1234 hag hel, ← c_main_v144__main_v1237 hag hel]

theorem c_main_v146__main_v1239 : StableHlo.after Cert.KernelIdeal.Hand.KOps (Cert.KernelIdeal.Hand.Wl (F := Ideal) m ρ c) (Proc.devRef .tc Cert.KernelIdeal.main_v146) = StableHlo.after (Cert.ReferenceIdeal.Hand.ops (F := Ideal)) (StableHlo.launchContents m' c) (Proc.devRef .tc Cert.ReferenceIdeal.main_v1239) := by
  have hk := StableHlo.Ascending.eq_unary Cert.KernelIdeal.Hand.KOps_asc (Cert.KernelIdeal.Hand.Wl m ρ c) (Cert.KernelIdeal.Hand.mem_KOps_st5 (Cert.KernelIdeal.Hand.mem_st_5 (List.getElem_mem (l := Cert.KernelIdeal.GenP.hostOps5 (F := Ideal)) (n := 114) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part25 (List.getElem_mem (l := Cert.ReferenceIdeal.Hand.ops_part25 (F := Ideal)) (n := 5) (by decide))) rfl rfl (by decide) (hx := ⟨by decide, rfl⟩) (hy := ⟨by decide, rfl⟩)
  rw [hk, hr, ← c_main_v145__main_v1238 hag hel]

theorem c_main_v147__main_v1240 : StableHlo.after Cert.KernelIdeal.Hand.KOps (Cert.KernelIdeal.Hand.Wl (F := Ideal) m ρ c) (Proc.devRef .tc Cert.KernelIdeal.main_v147) = StableHlo.after (Cert.ReferenceIdeal.Hand.ops (F := Ideal)) (StableHlo.launchContents m' c) (Proc.devRef .tc Cert.ReferenceIdeal.main_v1240) := by
  have hk := StableHlo.Ascending.eq_unary Cert.KernelIdeal.Hand.KOps_asc (Cert.KernelIdeal.Hand.Wl m ρ c) (Cert.KernelIdeal.Hand.mem_KOps_st5 (Cert.KernelIdeal.Hand.mem_st_5 (List.getElem_mem (l := Cert.KernelIdeal.GenP.hostOps5 (F := Ideal)) (n := 115) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part25 (List.getElem_mem (l := Cert.ReferenceIdeal.Hand.ops_part25 (F := Ideal)) (n := 6) (by decide))) rfl rfl (by decide) (hx := ⟨by decide, rfl⟩) (hy := ⟨by decide, rfl⟩)
  rw [hk, hr, ← c_main_v146__main_v1239 hag hel]

end Cert.Value

end
-- ==== Proof.Val.C003.lean ====
/- Steps C003 of the value claim's chain: for each listed pair, the kernel program's buffer and its reference twin hold equal contents at the two programs' final
   valuations — the two operations are the same function (read off the two operation lists) of operands already paired. A table; written by: bun scratch/corr.js 60 -/
import proofs.«146970_j35948876268088_1_alg».proof.Proof.Val.Seed
import proofs.«146970_j35948876268088_1_alg».proof.Proof.KI.Dots
import Mathlib.Tactic.FinCases
import proofs.«146970_j35948876268088_1_alg».proof.Proof.Val.C001
import proofs.«146970_j35948876268088_1_alg».proof.Proof.Val.C002

set_option maxRecDepth 16384

noncomputable section

namespace Cert.Value

open Idealize.ShloMosaic Idealize.ShloMosaic.TcCoe Idealize.SL.Sem

variable {m : (ℓ : Loc Cert.KernelIdeal.nD Cert.KernelIdeal.τ Cert.KernelIdeal.sig) → Buf (Elt Ideal) ℓ} {ρ : Dev Cert.KernelIdeal.nD → PrngReg}
  {m' : (ℓ : Loc Cert.ReferenceIdeal.nD Cert.ReferenceIdeal.τ Cert.ReferenceIdeal.sig) → Buf (Elt Ideal) ℓ} {c : Dev Cert.KernelIdeal.nD} (hag : Agree m m') (hel : Els m' c)
include hag hel

theorem c_main_cst_21__main_cst_264 : StableHlo.after Cert.KernelIdeal.Hand.KOps (Cert.KernelIdeal.Hand.Wl (F := Ideal) m ρ c) (Proc.devRef .tc Cert.KernelIdeal.main_cst_21) = StableHlo.after (Cert.ReferenceIdeal.Hand.ops (F := Ideal)) (StableHlo.launchContents m' c) (Proc.devRef .tc Cert.ReferenceIdeal.main_cst_264) := by
  have hk := StableHlo.Ascending.eq_nullary Cert.KernelIdeal.Hand.KOps_asc (Cert.KernelIdeal.Hand.Wl m ρ c) (Cert.KernelIdeal.Hand.mem_KOps_st5 (Cert.KernelIdeal.Hand.mem_st_5 (List.getElem_mem (l := Cert.KernelIdeal.GenP.hostOps5 (F := Ideal)) (n := 116) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part25 (List.getElem_mem (l := Cert.ReferenceIdeal.Hand.ops_part25 (F := Ideal)) (n := 7) (by decide))) rfl (hy := ⟨by decide, rfl⟩)
  rw [hk, hr]

theorem c_main_v148__main_v1241 : StableHlo.after Cert.KernelIdeal.Hand.KOps (Cert.KernelIdeal.Hand.Wl (F := Ideal) m ρ c) (Proc.devRef .tc Cert.KernelIdeal.main_v148) = StableHlo.after (Cert.ReferenceIdeal.Hand.ops (F := Ideal)) (StableHlo.launchContents m' c) (Proc.devRef .tc Cert.ReferenceIdeal.main_v1241) := by
  have hk := StableHlo.Ascending.eq_unary Cert.KernelIdeal.Hand.KOps_asc (Cert.KernelIdeal.Hand.Wl m ρ c) (Cert.KernelIdeal.Hand.mem_KOps_st5 (Cert.KernelIdeal.Hand.mem_st_5 (List.getElem_mem (l := Cert.KernelIdeal.GenP.hostOps5 (F := Ideal)) (n := 117) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part25 (List.getElem_mem (l := Cert.ReferenceIdeal.Hand.ops_part25 (F := Ideal)) (n := 8) (by decide))) rfl rfl (by decide) (hx := ⟨by decide, rfl⟩) (hy := ⟨by decide, rfl⟩)
  rw [hk, hr, ← c_main_cst_21__main_cst_264 hag hel]

theorem c_main_v149__main_v1242 : StableHlo.after Cert.KernelIdeal.Hand.KOps (Cert.KernelIdeal.Hand.Wl (F := Ideal) m ρ c) (Proc.devRef .tc Cert.KernelIdeal.main_v149) = StableHlo.after (Cert.ReferenceIdeal.Hand.ops (F := Ideal)) (StableHlo.launchContents m' c) (Proc.devRef .tc Cert.ReferenceIdeal.main_v1242) := by
  have hk := StableHlo.Ascending.eq_binary Cert.KernelIdeal.Hand.KOps_asc (Cert.KernelIdeal.Hand.Wl m ρ c) (Cert.KernelIdeal.Hand.mem_KOps_st5 (Cert.KernelIdeal.Hand.mem_st_5 (List.getElem_mem (l := Cert.KernelIdeal.GenP.hostOps5 (F := Ideal)) (n := 118) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part25 (List.getElem_mem (l := Cert.ReferenceIdeal.Hand.ops_part25 (F := Ideal)) (n := 9) (by decide))) rfl rfl rfl (by decide) (by decide) (ha := ⟨by decide, rfl⟩) (hb := ⟨by decide, rfl⟩) (hy := ⟨by decide, rfl⟩)
  rw [hk, hr, ← c_main_v148__main_v1241 hag hel, ← c_main_v147__main_v1240 hag hel]

theorem c_main_cst_22__main_cst_265 : StableHlo.after Cert.KernelIdeal.Hand.KOps (Cert.KernelIdeal.Hand.Wl (F := Ideal) m ρ c) (Proc.devRef .tc Cert.KernelIdeal.main_cst_22) = StableHlo.after (Cert.ReferenceIdeal.Hand.ops (F := Ideal)) (StableHlo.launchContents m' c) (Proc.devRef .tc Cert.ReferenceIdeal.main_cst_265) := by
  have hk := StableHlo.Ascending.eq_nullary Cert.KernelIdeal.Hand.KOps_asc (Cert.KernelIdeal.Hand.Wl m ρ c) (Cert.KernelIdeal.Hand.mem_KOps_st5 (Cert.KernelIdeal.Hand.mem_st_5 (List.getElem_mem (l := Cert.KernelIdeal.GenP.hostOps5 (F := Ideal)) (n := 119) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part25 (List.getElem_mem (l := Cert.ReferenceIdeal.Hand.ops_part25 (F := Ideal)) (n := 10) (by decide))) rfl (hy := ⟨by decide, rfl⟩)
  rw [hk, hr]

theorem c_main_v150__main_v1243 : StableHlo.after Cert.KernelIdeal.Hand.KOps (Cert.KernelIdeal.Hand.Wl (F := Ideal) m ρ c) (Proc.devRef .tc Cert.KernelIdeal.main_v150) = StableHlo.after (Cert.ReferenceIdeal.Hand.ops (F := Ideal)) (StableHlo.launchContents m' c) (Proc.devRef .tc Cert.ReferenceIdeal.main_v1243) := by
  have hk := StableHlo.Ascending.eq_unary Cert.KernelIdeal.Hand.KOps_asc (Cert.KernelIdeal.Hand.Wl m ρ c) (Cert.KernelIdeal.Hand.mem_KOps_st5 (Cert.KernelIdeal.Hand.mem_st_5 (List.getElem_mem (l := Cert.KernelIdeal.GenP.hostOps5 (F := Ideal)) (n := 120) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part25 (List.getElem_mem (l := Cert.ReferenceIdeal.Hand.ops_part25 (F := Ideal)) (n := 11) (by decide))) rfl rfl (by decide) (hx := ⟨by decide, rfl⟩) (hy := ⟨by decide, rfl⟩)
  rw [hk, hr, ← c_main_cst_22__main_cst_265 hag hel]

theorem c_main_v151__main_v1244 : StableHlo.after Cert.KernelIdeal.Hand.KOps (Cert.KernelIdeal.Hand.Wl (F := Ideal) m ρ c) (Proc.devRef .tc Cert.KernelIdeal.main_v151) = StableHlo.after (Cert.ReferenceIdeal.Hand.ops (F := Ideal)) (StableHlo.launchContents m' c) (Proc.devRef .tc Cert.ReferenceIdeal.main_v1244) := by
  have hk := StableHlo.Ascending.eq_binary Cert.KernelIdeal.Hand.KOps_asc (Cert.KernelIdeal.Hand.Wl m ρ c) (Cert.KernelIdeal.Hand.mem_KOps_st5 (Cert.KernelIdeal.Hand.mem_st_5 (List.getElem_mem (l := Cert.KernelIdeal.GenP.hostOps5 (F := Ideal)) (n := 121) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part25 (List.getElem_mem (l := Cert.ReferenceIdeal.Hand.ops_part25 (F := Ideal)) (n := 12) (by decide))) rfl rfl rfl (by decide) (by decide) (ha := ⟨by decide, rfl⟩) (hb := ⟨by decide, rfl⟩) (hy := ⟨by decide, rfl⟩)
  rw [hk, hr, ← c_main_v150__main_v1243 hag hel, ← c_main_v149__main_v1242 hag hel]

theorem c_main_v152__main_v1245 : StableHlo.after Cert.KernelIdeal.Hand.KOps (Cert.KernelIdeal.Hand.Wl (F := Ideal) m ρ c) (Proc.devRef .tc Cert.KernelIdeal.main_v152) = StableHlo.after (Cert.ReferenceIdeal.Hand.ops (F := Ideal)) (StableHlo.launchContents m' c) (Proc.devRef .tc Cert.ReferenceIdeal.main_v1245) := by
  have hk := StableHlo.Ascending.eq_unary Cert.KernelIdeal.Hand.KOps_asc (Cert.KernelIdeal.Hand.Wl m ρ c) (Cert.KernelIdeal.Hand.mem_KOps_st5 (Cert.KernelIdeal.Hand.mem_st_5 (List.getElem_mem (l := Cert.KernelIdeal.GenP.hostOps5 (F := Ideal)) (n := 122) (by decide)))) rfl rfl (by decide) (x := Cert.KernelIdeal.main_arg6) (y := Cert.KernelIdeal.main_v152) (f := open Cert.KernelIdeal Cert.KernelIdeal.Gen in (extractStridedSlice S1x16x16 ![2, 0, 0] · slices_S3x16x16_S1x16x16_2_0_0)) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part25 (List.getElem_mem (l := Cert.ReferenceIdeal.Hand.ops_part25 (F := Ideal)) (n := 13) (by decide))) rfl rfl (by decide) (x := Cert.ReferenceIdeal.main_arg6) (y := Cert.ReferenceIdeal.main_v1245) (f := open Cert.ReferenceIdeal Cert.ReferenceIdeal.Gen in (extractStridedSlice S1x16x16 ![2, 0, 0] · slices_S3x16x16_S1x16x16_2_0_0)) (hx := ⟨by decide, rfl⟩) (hy := ⟨by decide, rfl⟩)
  rw [hk, hr, ← c_main_arg6__main_arg6 hag hel]

theorem c_main_v153__main_v1246 : StableHlo.after Cert.KernelIdeal.Hand.KOps (Cert.KernelIdeal.Hand.Wl (F := Ideal) m ρ c) (Proc.devRef .tc Cert.KernelIdeal.main_v153) = StableHlo.after (Cert.ReferenceIdeal.Hand.ops (F := Ideal)) (StableHlo.launchContents m' c) (Proc.devRef .tc Cert.ReferenceIdeal.main_v1246) := by
  have hk := StableHlo.Ascending.eq_reshape Cert.KernelIdeal.Hand.KOps_asc (Cert.KernelIdeal.Hand.Wl m ρ c) (Cert.KernelIdeal.Hand.mem_KOps_st5 (Cert.KernelIdeal.Hand.mem_st_5 (List.getElem_mem (l := Cert.KernelIdeal.GenP.hostOps5 (F := Ideal)) (n := 123) (by decide)))) rfl rfl (by decide) (x := Cert.KernelIdeal.main_v152) (y := Cert.KernelIdeal.main_v153) (he := rfl) (hn := Cert.KernelIdeal.Gen.shapeCasts_S1x16x16_S16x16) (hx := ⟨by decide, rfl⟩) (hy := ⟨by decide, rfl⟩)
  have hr := StableHlo.Ascending.eq_reshape (Cert.ReferenceIdeal.Hand.ops_asc (F := Ideal)) (StableHlo.launchContents m' c) (Cert.ReferenceIdeal.Hand.mem_ops_part25 (List.getElem_mem (l := Cert.ReferenceIdeal.Hand.ops_part25 (F := Ideal)) (n := 14) (by decide))) rfl rfl (by decide) (x := Cert.ReferenceIdeal.main_v1245) (y := Cert.ReferenceIdeal.main_v1246) (he := rfl) (hn := Cert.ReferenceIdeal.Gen.shapeCasts_S1x16x16_S16x16) (hx := ⟨by decide, rfl⟩) (hy := ⟨by decide, rfl⟩)
  rw [hk, hr, ← c_main_v152__main_v1245 hag hel]
  rfl

theorem c_main_v154__main_v1247 : StableHlo.after Cert.KernelIdeal.Hand.KOps (Cert.KernelIdeal.Hand.Wl (F := Ideal) m ρ c) (Proc.devRef .tc Cert.KernelIdeal.main_v154) = StableHlo.after (Cert.ReferenceIdeal.Hand.ops (F := Ideal)) (StableHlo.launchContents m' c) (Proc.devRef .tc Cert.ReferenceIdeal.main_v1247) := by
  have hk := StableHlo.Ascending.eq_binary Cert.KernelIdeal.Hand.KOps_asc (Cert.KernelIdeal.Hand.Wl m ρ c) (Cert.KernelIdeal.Hand.mem_KOps_st5 (Cert.KernelIdeal.Hand.mem_st_5 (List.getElem_mem (l := Cert.KernelIdeal.GenP.hostOps5 (F := Ideal)) (n := 124) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part25 (List.getElem_mem (l := Cert.ReferenceIdeal.Hand.ops_part25 (F := Ideal)) (n := 15) (by decide))) rfl rfl rfl (by decide) (by decide) (ha := ⟨by decide, rfl⟩) (hb := ⟨by decide, rfl⟩) (hy := ⟨by decide, rfl⟩)
  rw [hk, hr, ← c_main_v153__main_v1246 hag hel, ← c_main_v125__main_v721 hag hel]
  rfl

theorem c_main_v155__main_v1248 : StableHlo.after Cert.KernelIdeal.Hand.KOps (Cert.KernelIdeal.Hand.Wl (F := Ideal) m ρ c) (Proc.devRef .tc Cert.KernelIdeal.main_v155) = StableHlo.after (Cert.ReferenceIdeal.Hand.ops (F := Ideal)) (StableHlo.launchContents m' c) (Proc.devRef .tc Cert.ReferenceIdeal.main_v1248) := by
  have hk := StableHlo.Ascending.eq_unary Cert.KernelIdeal.Hand.KOps_asc (Cert.KernelIdeal.Hand.Wl m ρ c) (Cert.KernelIdeal.Hand.mem_KOps_st5 (Cert.KernelIdeal.Hand.mem_st_5 (List.getElem_mem (l := Cert.KernelIdeal.GenP.hostOps5 (F := Ideal)) (n := 125) (by decide)))) rfl rfl (by decide) (x := Cert.KernelIdeal.main_arg7) (y := Cert.KernelIdeal.main_v155) (f := open Cert.KernelIdeal Cert.KernelIdeal.Gen in (extractStridedSlice S1x16x16 ![2, 0, 0] · slices_S3x16x16_S1x16x16_2_0_0)) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part25 (List.getElem_mem (l := Cert.ReferenceIdeal.Hand.ops_part25 (F := Ideal)) (n := 16) (by decide))) rfl rfl (by decide) (x := Cert.ReferenceIdeal.main_arg7) (y := Cert.ReferenceIdeal.main_v1248) (f := open Cert.ReferenceIdeal Cert.ReferenceIdeal.Gen in (extractStridedSlice S1x16x16 ![2, 0, 0] · slices_S3x16x16_S1x16x16_2_0_0)) (hx := ⟨by decide, rfl⟩) (hy := ⟨by decide, rfl⟩)
  rw [hk, hr, ← c_main_arg7__main_arg7 hag hel]

theorem c_main_v156__main_v1249 : StableHlo.after Cert.KernelIdeal.Hand.KOps (Cert.KernelIdeal.Hand.Wl (F := Ideal) m ρ c) (Proc.devRef .tc Cert.KernelIdeal.main_v156) = StableHlo.after (Cert.ReferenceIdeal.Hand.ops (F := Ideal)) (StableHlo.launchContents m' c) (Proc.devRef .tc Cert.ReferenceIdeal.main_v1249) := by
  have hk := StableHlo.Ascending.eq_reshape Cert.KernelIdeal.Hand.KOps_asc (Cert.KernelIdeal.Hand.Wl m ρ c) (Cert.KernelIdeal.Hand.mem_KOps_st5 (Cert.KernelIdeal.Hand.mem_st_5 (List.getElem_mem (l := Cert.KernelIdeal.GenP.hostOps5 (F := Ideal)) (n := 126) (by decide)))) rfl rfl (by decide) (x := Cert.KernelIdeal.main_v155) (y := Cert.KernelIdeal.main_v156) (he := rfl) (hn := Cert.KernelIdeal.Gen.shapeCasts_S1x16x16_S16x16) (hx := ⟨by decide, rfl⟩) (hy := ⟨by decide, rfl⟩)
  have hr := StableHlo.Ascending.eq_reshape (Cert.ReferenceIdeal.Hand.ops_asc (F := Ideal)) (StableHlo.launchContents m' c) (Cert.ReferenceIdeal.Hand.mem_ops_part25 (List.getElem_mem (l := Cert.ReferenceIdeal.Hand.ops_part25 (F := Ideal)) (n := 17) (by decide))) rfl rfl (by decide) (x := Cert.ReferenceIdeal.main_v1248) (y := Cert.ReferenceIdeal.main_v1249) (he := rfl) (hn := Cert.ReferenceIdeal.Gen.shapeCasts_S1x16x16_S16x16) (hx := ⟨by decide, rfl⟩) (hy := ⟨by decide, rfl⟩)
  rw [hk, hr, ← c_main_v155__main_v1248 hag hel]
  rfl

theorem c_main_v157__main_v1250 : StableHlo.after Cert.KernelIdeal.Hand.KOps (Cert.KernelIdeal.Hand.Wl (F := Ideal) m ρ c) (Proc.devRef .tc Cert.KernelIdeal.main_v157) = StableHlo.after (Cert.ReferenceIdeal.Hand.ops (F := Ideal)) (StableHlo.launchContents m' c) (Proc.devRef .tc Cert.ReferenceIdeal.main_v1250) := by
  have hk := StableHlo.Ascending.eq_binary Cert.KernelIdeal.Hand.KOps_asc (Cert.KernelIdeal.Hand.Wl m ρ c) (Cert.KernelIdeal.Hand.mem_KOps_st5 (Cert.KernelIdeal.Hand.mem_st_5 (List.getElem_mem (l := Cert.KernelIdeal.GenP.hostOps5 (F := Ideal)) (n := 127) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part25 (List.getElem_mem (l := Cert.ReferenceIdeal.Hand.ops_part25 (F := Ideal)) (n := 18) (by decide))) rfl rfl rfl (by decide) (by decide) (ha := ⟨by decide, rfl⟩) (hb := ⟨by decide, rfl⟩) (hy := ⟨by decide, rfl⟩)
  rw [hk, hr, ← c_main_v151__main_v1244 hag hel, ← c_main_v125__main_v721 hag hel]

theorem c_main_v158__main_v1251 : StableHlo.after Cert.KernelIdeal.Hand.KOps (Cert.KernelIdeal.Hand.Wl (F := Ideal) m ρ c) (Proc.devRef .tc Cert.KernelIdeal.main_v158) = StableHlo.after (Cert.ReferenceIdeal.Hand.ops (F := Ideal)) (StableHlo.launchContents m' c) (Proc.devRef .tc Cert.ReferenceIdeal.main_v1251) := by
  have hk := StableHlo.Ascending.eq_binary Cert.KernelIdeal.Hand.KOps_asc (Cert.KernelIdeal.Hand.Wl m ρ c) (Cert.KernelIdeal.Hand.mem_KOps_st5 (Cert.KernelIdeal.Hand.mem_st_5 (List.getElem_mem (l := Cert.KernelIdeal.GenP.hostOps5 (F := Ideal)) (n := 128) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part25 (List.getElem_mem (l := Cert.ReferenceIdeal.Hand.ops_part25 (F := Ideal)) (n := 19) (by decide))) rfl rfl rfl (by decide) (by decide) (ha := ⟨by decide, rfl⟩) (hb := ⟨by decide, rfl⟩) (hy := ⟨by decide, rfl⟩)
  rw [hk, hr, ← c_main_v156__main_v1249 hag hel, ← c_main_v157__main_v1250 hag hel]
  rfl

theorem c_main_v159__main_v1252 : StableHlo.after Cert.KernelIdeal.Hand.KOps (Cert.KernelIdeal.Hand.Wl (F := Ideal) m ρ c) (Proc.devRef .tc Cert.KernelIdeal.main_v159) = StableHlo.after (Cert.ReferenceIdeal.Hand.ops (F := Ideal)) (StableHlo.launchContents m' c) (Proc.devRef .tc Cert.ReferenceIdeal.main_v1252) := by
  have hk := StableHlo.Ascending.eq_binary Cert.KernelIdeal.Hand.KOps_asc (Cert.KernelIdeal.Hand.Wl m ρ c) (Cert.KernelIdeal.Hand.mem_KOps_st5 (Cert.KernelIdeal.Hand.mem_st_5 (List.getElem_mem (l := Cert.KernelIdeal.GenP.hostOps5 (F := Ideal)) (n := 129) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part25 (List.getElem_mem (l := Cert.ReferenceIdeal.Hand.ops_part25 (F := Ideal)) (n := 20) (by decide))) rfl rfl rfl (by decide) (by decide) (ha := ⟨by decide, rfl⟩) (hb := ⟨by decide, rfl⟩) (hy := ⟨by decide, rfl⟩)
  rw [hk, hr, ← c_main_v154__main_v1247 hag hel, ← c_main_v158__main_v1251 hag hel]

theorem c_main_v160__main_v1253 : StableHlo.after Cert.KernelIdeal.Hand.KOps (Cert.KernelIdeal.Hand.Wl (F := Ideal) m ρ c) (Proc.devRef .tc Cert.KernelIdeal.main_v160) = StableHlo.after (Cert.ReferenceIdeal.Hand.ops (F := Ideal)) (StableHlo.launchContents m' c) (Proc.devRef .tc Cert.ReferenceIdeal.main_v1253) := by
  have hk := StableHlo.Ascending.eq_unary Cert.KernelIdeal.Hand.KOps_asc (Cert.KernelIdeal.Hand.Wl m ρ c) (Cert.KernelIdeal.Hand.mem_KOps_st5 (Cert.KernelIdeal.Hand.mem_st_5 (List.getElem_mem (l := Cert.KernelIdeal.GenP.hostOps5 (F := Ideal)) (n := 130) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part25 (List.getElem_mem (l := Cert.ReferenceIdeal.Hand.ops_part25 (F := Ideal)) (n := 21) (by decide))) rfl rfl (by decide) (hx := ⟨by decide, rfl⟩) (hy := ⟨by decide, rfl⟩)
  rw [hk, hr, ← c_main_v159__main_v1252 hag hel]

theorem c_main_cst_23__main_cst_266 : StableHlo.after Cert.KernelIdeal.Hand.KOps (Cert.KernelIdeal.Hand.Wl (F := Ideal) m ρ c) (Proc.devRef .tc Cert.KernelIdeal.main_cst_23) = StableHlo.after (Cert.ReferenceIdeal.Hand.ops (F := Ideal)) (StableHlo.launchContents m' c) (Proc.devRef .tc Cert.ReferenceIdeal.main_cst_266) := by
  have hk := StableHlo.Ascending.eq_nullary Cert.KernelIdeal.Hand.KOps_asc (Cert.KernelIdeal.Hand.Wl m ρ c) (Cert.KernelIdeal.Hand.mem_KOps_st5 (Cert.KernelIdeal.Hand.mem_st_5 (List.getElem_mem (l := Cert.KernelIdeal.GenP.hostOps5 (F := Ideal)) (n := 131) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part25 (List.getElem_mem (l := Cert.ReferenceIdeal.Hand.ops_part25 (F := Ideal)) (n := 22) (by decide))) rfl (hy := ⟨by decide, rfl⟩)
  rw [hk, hr]

theorem c_main_v161__main_v1254 : StableHlo.after Cert.KernelIdeal.Hand.KOps (Cert.KernelIdeal.Hand.Wl (F := Ideal) m ρ c) (Proc.devRef .tc Cert.KernelIdeal.main_v161) = StableHlo.after (Cert.ReferenceIdeal.Hand.ops (F := Ideal)) (StableHlo.launchContents m' c) (Proc.devRef .tc Cert.ReferenceIdeal.main_v1254) := by
  have hk := StableHlo.Ascending.eq_unary Cert.KernelIdeal.Hand.KOps_asc (Cert.KernelIdeal.Hand.Wl m ρ c) (Cert.KernelIdeal.Hand.mem_KOps_st5 (Cert.KernelIdeal.Hand.mem_st_5 (List.getElem_mem (l := Cert.KernelIdeal.GenP.hostOps5 (F := Ideal)) (n := 132) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part25 (List.getElem_mem (l := Cert.ReferenceIdeal.Hand.ops_part25 (F := Ideal)) (n := 23) (by decide))) rfl rfl (by decide) (hx := ⟨by decide, rfl⟩) (hy := ⟨by decide, rfl⟩)
  rw [hk, hr, ← c_main_cst_23__main_cst_266 hag hel]

theorem c_main_v162__main_v1255 : StableHlo.after Cert.KernelIdeal.Hand.KOps (Cert.KernelIdeal.Hand.Wl (F := Ideal) m ρ c) (Proc.devRef .tc Cert.KernelIdeal.main_v162) = StableHlo.after (Cert.ReferenceIdeal.Hand.ops (F := Ideal)) (StableHlo.launchContents m' c) (Proc.devRef .tc Cert.ReferenceIdeal.main_v1255) := by
  have hk := StableHlo.Ascending.eq_binary Cert.KernelIdeal.Hand.KOps_asc (Cert.KernelIdeal.Hand.Wl m ρ c) (Cert.KernelIdeal.Hand.mem_KOps_st5 (Cert.KernelIdeal.Hand.mem_st_5 (List.getElem_mem (l := Cert.KernelIdeal.GenP.hostOps5 (F := Ideal)) (n := 133) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part25 (List.getElem_mem (l := Cert.ReferenceIdeal.Hand.ops_part25 (F := Ideal)) (n := 24) (by decide))) rfl rfl rfl (by decide) (by decide) (ha := ⟨by decide, rfl⟩) (hb := ⟨by decide, rfl⟩) (hy := ⟨by decide, rfl⟩)
  rw [hk, hr, ← c_main_v161__main_v1254 hag hel, ← c_main_v138__main_v1231 hag hel]

theorem c_main_v163__main_v1256 : StableHlo.after Cert.KernelIdeal.Hand.KOps (Cert.KernelIdeal.Hand.Wl (F := Ideal) m ρ c) (Proc.devRef .tc Cert.KernelIdeal.main_v163) = StableHlo.after (Cert.ReferenceIdeal.Hand.ops (F := Ideal)) (StableHlo.launchContents m' c) (Proc.devRef .tc Cert.ReferenceIdeal.main_v1256) := by
  have hk := StableHlo.Ascending.eq_binary Cert.KernelIdeal.Hand.KOps_asc (Cert.KernelIdeal.Hand.Wl m ρ c) (Cert.KernelIdeal.Hand.mem_KOps_st5 (Cert.KernelIdeal.Hand.mem_st_5 (List.getElem_mem (l := Cert.KernelIdeal.GenP.hostOps5 (F := Ideal)) (n := 134) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part25 (List.getElem_mem (l := Cert.ReferenceIdeal.Hand.ops_part25 (F := Ideal)) (n := 25) (by decide))) rfl rfl rfl (by decide) (by decide) (ha := ⟨by decide, rfl⟩) (hb := ⟨by decide, rfl⟩) (hy := ⟨by decide, rfl⟩)
  rw [hk, hr, ← c_main_v162__main_v1255 hag hel, ← c_main_v125__main_v721 hag hel]

theorem c_main_v164__main_v1257 : StableHlo.after Cert.KernelIdeal.Hand.KOps (Cert.KernelIdeal.Hand.Wl (F := Ideal) m ρ c) (Proc.devRef .tc Cert.KernelIdeal.main_v164) = StableHlo.after (Cert.ReferenceIdeal.Hand.ops (F := Ideal)) (StableHlo.launchContents m' c) (Proc.devRef .tc Cert.ReferenceIdeal.main_v1257) := by
  have hk := StableHlo.Ascending.eq_binary Cert.KernelIdeal.Hand.KOps_asc (Cert.KernelIdeal.Hand.Wl m ρ c) (Cert.KernelIdeal.Hand.mem_KOps_st5 (Cert.KernelIdeal.Hand.mem_st_5 (List.getElem_mem (l := Cert.KernelIdeal.GenP.hostOps5 (F := Ideal)) (n := 135) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part25 (List.getElem_mem (l := Cert.ReferenceIdeal.Hand.ops_part25 (F := Ideal)) (n := 26) (by decide))) rfl rfl rfl (by decide) (by decide) (ha := ⟨by decide, rfl⟩) (hb := ⟨by decide, rfl⟩) (hy := ⟨by decide, rfl⟩)
  rw [hk, hr, ← c_main_v138__main_v1231 hag hel, ← c_main_v160__main_v1253 hag hel]

theorem c_main_v165__main_v1258 : StableHlo.after Cert.KernelIdeal.Hand.KOps (Cert.KernelIdeal.Hand.Wl (F := Ideal) m ρ c) (Proc.devRef .tc Cert.KernelIdeal.main_v165) = StableHlo.after (Cert.ReferenceIdeal.Hand.ops (F := Ideal)) (StableHlo.launchContents m' c) (Proc.devRef .tc Cert.ReferenceIdeal.main_v1258) := by
  have hk := StableHlo.Ascending.eq_binary Cert.KernelIdeal.Hand.KOps_asc (Cert.KernelIdeal.Hand.Wl m ρ c) (Cert.KernelIdeal.Hand.mem_KOps_st5 (Cert.KernelIdeal.Hand.mem_st_5 (List.getElem_mem (l := Cert.KernelIdeal.GenP.hostOps5 (F := Ideal)) (n := 136) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part25 (List.getElem_mem (l := Cert.ReferenceIdeal.Hand.ops_part25 (F := Ideal)) (n := 27) (by decide))) rfl rfl rfl (by decide) (by decide) (ha := ⟨by decide, rfl⟩) (hb := ⟨by decide, rfl⟩) (hy := ⟨by decide, rfl⟩)
  rw [hk, hr, ← c_main_v163__main_v1256 hag hel, ← c_main_v164__main_v1257 hag hel]

theorem c_main_v166__main_v1263 : StableHlo.after Cert.KernelIdeal.Hand.KOps (Cert.KernelIdeal.Hand.Wl (F := Ideal) m ρ c) (Proc.devRef .tc Cert.KernelIdeal.main_v166) = StableHlo.after (Cert.ReferenceIdeal.Hand.ops (F := Ideal)) (StableHlo.launchContents m' c) (Proc.devRef .tc Cert.ReferenceIdeal.main_v1263) := by
  have hk := StableHlo.Ascending.eq_binary Cert.KernelIdeal.Hand.KOps_asc (Cert.KernelIdeal.Hand.Wl m ρ c) (Cert.KernelIdeal.Hand.mem_KOps_st5 (Cert.KernelIdeal.Hand.mem_st_5 (List.getElem_mem (l := Cert.KernelIdeal.GenP.hostOps5 (F := Ideal)) (n := 137) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part25 (List.getElem_mem (l := Cert.ReferenceIdeal.Hand.ops_part25 (F := Ideal)) (n := 32) (by decide))) rfl rfl rfl (by decide) (by decide) (ha := ⟨by decide, rfl⟩) (hb := ⟨by decide, rfl⟩) (hy := ⟨by decide, rfl⟩)
  rw [hk, hr, ← c_main_v45__main_v144 hag hel]

theorem c_main_v166__main_v1387 : StableHlo.after Cert.KernelIdeal.Hand.KOps (Cert.KernelIdeal.Hand.Wl (F := Ideal) m ρ c) (Proc.devRef .tc Cert.KernelIdeal.main_v166) = StableHlo.after (Cert.ReferenceIdeal.Hand.ops (F := Ideal)) (StableHlo.launchContents m' c) (Proc.devRef .tc Cert.ReferenceIdeal.main_v1387) := by
  have hk := StableHlo.Ascending.eq_binary Cert.KernelIdeal.Hand.KOps_asc (Cert.KernelIdeal.Hand.Wl m ρ c) (Cert.KernelIdeal.Hand.mem_KOps_st5 (Cert.KernelIdeal.Hand.mem_st_5 (List.getElem_mem (l := Cert.KernelIdeal.GenP.hostOps5 (F := Ideal)) (n := 137) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part28 (List.getElem_mem (l := Cert.ReferenceIdeal.Hand.ops_part28 (F := Ideal)) (n := 4) (by decide))) rfl rfl rfl (by decide) (by decide) (ha := ⟨by decide, rfl⟩) (hb := ⟨by decide, rfl⟩) (hy := ⟨by decide, rfl⟩)
  rw [hk, hr, ← c_main_v45__main_v144 hag hel]

theorem c_main_v166__main_v1511 : StableHlo.after Cert.KernelIdeal.Hand.KOps (Cert.KernelIdeal.Hand.Wl (F := Ideal) m ρ c) (Proc.devRef .tc Cert.KernelIdeal.main_v166) = StableHlo.after (Cert.ReferenceIdeal.Hand.ops (F := Ideal)) (StableHlo.launchContents m' c) (Proc.devRef .tc Cert.ReferenceIdeal.main_v1511) := by
  have hk := StableHlo.Ascending.eq_binary Cert.KernelIdeal.Hand.KOps_asc (Cert.KernelIdeal.Hand.Wl m ρ c) (Cert.KernelIdeal.Hand.mem_KOps_st5 (Cert.KernelIdeal.Hand.mem_st_5 (List.getElem_mem (l := Cert.KernelIdeal.GenP.hostOps5 (F := Ideal)) (n := 137) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part30 (List.getElem_mem (l := Cert.ReferenceIdeal.Hand.ops_part30 (F := Ideal)) (n := 52) (by decide))) rfl rfl rfl (by decide) (by decide) (ha := ⟨by decide, rfl⟩) (hb := ⟨by decide, rfl⟩) (hy := ⟨by decide, rfl⟩)
  rw [hk, hr, ← c_main_v45__main_v144 hag hel]

theorem c_main_v166__main_v1635 : StableHlo.after Cert.KernelIdeal.Hand.KOps (Cert.KernelIdeal.Hand.Wl (F := Ideal) m ρ c) (Proc.devRef .tc Cert.KernelIdeal.main_v166) = StableHlo.after (Cert.ReferenceIdeal.Hand.ops (F := Ideal)) (StableHlo.launchContents m' c) (Proc.devRef .tc Cert.ReferenceIdeal.main_v1635) := by
  have hk := StableHlo.Ascending.eq_binary Cert.KernelIdeal.Hand.KOps_asc (Cert.KernelIdeal.Hand.Wl m ρ c) (Cert.KernelIdeal.Hand.mem_KOps_st5 (Cert.KernelIdeal.Hand.mem_st_5 (List.getElem_mem (l := Cert.KernelIdeal.GenP.hostOps5 (F := Ideal)) (n := 137) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part33 (List.getElem_mem (l := Cert.ReferenceIdeal.Hand.ops_part33 (F := Ideal)) (n := 22) (by decide))) rfl rfl rfl (by decide) (by decide) (ha := ⟨by decide, rfl⟩) (hb := ⟨by decide, rfl⟩) (hy := ⟨by decide, rfl⟩)
  rw [hk, hr, ← c_main_v45__main_v144 hag hel]

theorem c_main_cst_24__main_cst_267 : StableHlo.after Cert.KernelIdeal.Hand.KOps (Cert.KernelIdeal.Hand.Wl (F := Ideal) m ρ c) (Proc.devRef .tc Cert.KernelIdeal.main_cst_24) = StableHlo.after (Cert.ReferenceIdeal.Hand.ops (F := Ideal)) (StableHlo.launchContents m' c) (Proc.devRef .tc Cert.ReferenceIdeal.main_cst_267) := by
  have hk := StableHlo.Ascending.eq_nullary Cert.KernelIdeal.Hand.KOps_asc (Cert.KernelIdeal.Hand.Wl m ρ c) (Cert.KernelIdeal.Hand.mem_KOps_st5 (Cert.KernelIdeal.Hand.mem_st_5 (List.getElem_mem (l := Cert.KernelIdeal.GenP.hostOps5 (F := Ideal)) (n := 138) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part25 (List.getElem_mem (l := Cert.ReferenceIdeal.Hand.ops_part25 (F := Ideal)) (n := 33) (by decide))) rfl (hy := ⟨by decide, rfl⟩)
  rw [hk, hr]

theorem c_main_cst_24__main_cst_295 : StableHlo.after Cert.KernelIdeal.Hand.KOps (Cert.KernelIdeal.Hand.Wl (F := Ideal) m ρ c) (Proc.devRef .tc Cert.KernelIdeal.main_cst_24) = StableHlo.after (Cert.ReferenceIdeal.Hand.ops (F := Ideal)) (StableHlo.launchContents m' c) (Proc.devRef .tc Cert.ReferenceIdeal.main_cst_295) := by
  have hk := StableHlo.Ascending.eq_nullary Cert.KernelIdeal.Hand.KOps_asc (Cert.KernelIdeal.Hand.Wl m ρ c) (Cert.KernelIdeal.Hand.mem_KOps_st5 (Cert.KernelIdeal.Hand.mem_st_5 (List.getElem_mem (l := Cert.KernelIdeal.GenP.hostOps5 (F := Ideal)) (n := 138) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part28 (List.getElem_mem (l := Cert.ReferenceIdeal.Hand.ops_part28 (F := Ideal)) (n := 5) (by decide))) rfl (hy := ⟨by decide, rfl⟩)
  rw [hk, hr]

theorem c_main_cst_24__main_cst_323 : StableHlo.after Cert.KernelIdeal.Hand.KOps (Cert.KernelIdeal.Hand.Wl (F := Ideal) m ρ c) (Proc.devRef .tc Cert.KernelIdeal.main_cst_24) = StableHlo.after (Cert.ReferenceIdeal.Hand.ops (F := Ideal)) (StableHlo.launchContents m' c) (Proc.devRef .tc Cert.ReferenceIdeal.main_cst_323) := by
  have hk := StableHlo.Ascending.eq_nullary Cert.KernelIdeal.Hand.KOps_asc (Cert.KernelIdeal.Hand.Wl m ρ c) (Cert.KernelIdeal.Hand.mem_KOps_st5 (Cert.KernelIdeal.Hand.mem_st_5 (List.getElem_mem (l := Cert.KernelIdeal.GenP.hostOps5 (F := Ideal)) (n := 138) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part30 (List.getElem_mem (l := Cert.ReferenceIdeal.Hand.ops_part30 (F := Ideal)) (n := 53) (by decide))) rfl (hy := ⟨by decide, rfl⟩)
  rw [hk, hr]

theorem c_main_cst_24__main_cst_351 : StableHlo.after Cert.KernelIdeal.Hand.KOps (Cert.KernelIdeal.Hand.Wl (F := Ideal) m ρ c) (Proc.devRef .tc Cert.KernelIdeal.main_cst_24) = StableHlo.after (Cert.ReferenceIdeal.Hand.ops (F := Ideal)) (StableHlo.launchContents m' c) (Proc.devRef .tc Cert.ReferenceIdeal.main_cst_351) := by
  have hk := StableHlo.Ascending.eq_nullary Cert.KernelIdeal.Hand.KOps_asc (Cert.KernelIdeal.Hand.Wl m ρ c) (Cert.KernelIdeal.Hand.mem_KOps_st5 (Cert.KernelIdeal.Hand.mem_st_5 (List.getElem_mem (l := Cert.KernelIdeal.GenP.hostOps5 (F := Ideal)) (n := 138) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part33 (List.getElem_mem (l := Cert.ReferenceIdeal.Hand.ops_part33 (F := Ideal)) (n := 23) (by decide))) rfl (hy := ⟨by decide, rfl⟩)
  rw [hk, hr]

theorem c_main_v167__main_v1264 : StableHlo.after Cert.KernelIdeal.Hand.KOps (Cert.KernelIdeal.Hand.Wl (F := Ideal) m ρ c) (Proc.devRef .tc Cert.KernelIdeal.main_v167) = StableHlo.after (Cert.ReferenceIdeal.Hand.ops (F := Ideal)) (StableHlo.launchContents m' c) (Proc.devRef .tc Cert.ReferenceIdeal.main_v1264) := by
  have hk := StableHlo.Ascending.eq_binary Cert.KernelIdeal.Hand.KOps_asc (Cert.KernelIdeal.Hand.Wl m ρ c) (Cert.KernelIdeal.Hand.mem_KOps_st5 (Cert.KernelIdeal.Hand.mem_st_5 (List.getElem_mem (l := Cert.KernelIdeal.GenP.hostOps5 (F := Ideal)) (n := 139) (by decide)))) rfl rfl rfl (by decide) (by decide) (a := Cert.KernelIdeal.main_v166) (b := Cert.KernelIdeal.main_cst_24) (y := Cert.KernelIdeal.main_v167) (f := open Cert.KernelIdeal Cert.KernelIdeal.Gen in (fun x v => Host.reduceAdd (F := Ideal) x v reducesTo_S2048x256_S2048_d1 h_S_)) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part25 (List.getElem_mem (l := Cert.ReferenceIdeal.Hand.ops_part25 (F := Ideal)) (n := 34) (by decide))) rfl rfl rfl (by decide) (by decide) (a := Cert.ReferenceIdeal.main_v1263) (b := Cert.ReferenceIdeal.main_cst_267) (y := Cert.ReferenceIdeal.main_v1264) (f := open Cert.ReferenceIdeal Cert.ReferenceIdeal.Gen in (fun x v => Host.reduceAdd (F := Ideal) x v reducesTo_S2048x256_S2048_d1 h_S_)) (ha := ⟨by decide, rfl⟩) (hb := ⟨by decide, rfl⟩) (hy := ⟨by decide, rfl⟩)
  rw [hk, hr, ← c_main_v166__main_v1263 hag hel, ← c_main_cst_24__main_cst_267 hag hel]

theorem c_main_v167__main_v1388 : StableHlo.after Cert.KernelIdeal.Hand.KOps (Cert.KernelIdeal.Hand.Wl (F := Ideal) m ρ c) (Proc.devRef .tc Cert.KernelIdeal.main_v167) = StableHlo.after (Cert.ReferenceIdeal.Hand.ops (F := Ideal)) (StableHlo.launchContents m' c) (Proc.devRef .tc Cert.ReferenceIdeal.main_v1388) := by
  have hk := StableHlo.Ascending.eq_binary Cert.KernelIdeal.Hand.KOps_asc (Cert.KernelIdeal.Hand.Wl m ρ c) (Cert.KernelIdeal.Hand.mem_KOps_st5 (Cert.KernelIdeal.Hand.mem_st_5 (List.getElem_mem (l := Cert.KernelIdeal.GenP.hostOps5 (F := Ideal)) (n := 139) (by decide)))) rfl rfl rfl (by decide) (by decide) (a := Cert.KernelIdeal.main_v166) (b := Cert.KernelIdeal.main_cst_24) (y := Cert.KernelIdeal.main_v167) (f := open Cert.KernelIdeal Cert.KernelIdeal.Gen in (fun x v => Host.reduceAdd (F := Ideal) x v reducesTo_S2048x256_S2048_d1 h_S_)) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part28 (List.getElem_mem (l := Cert.ReferenceIdeal.Hand.ops_part28 (F := Ideal)) (n := 6) (by decide))) rfl rfl rfl (by decide) (by decide) (a := Cert.ReferenceIdeal.main_v1387) (b := Cert.ReferenceIdeal.main_cst_295) (y := Cert.ReferenceIdeal.main_v1388) (f := open Cert.ReferenceIdeal Cert.ReferenceIdeal.Gen in (fun x v => Host.reduceAdd (F := Ideal) x v reducesTo_S2048x256_S2048_d1 h_S_)) (ha := ⟨by decide, rfl⟩) (hb := ⟨by decide, rfl⟩) (hy := ⟨by decide, rfl⟩)
  rw [hk, hr, ← c_main_v166__main_v1387 hag hel, ← c_main_cst_24__main_cst_295 hag hel]

theorem c_main_v167__main_v1512 : StableHlo.after Cert.KernelIdeal.Hand.KOps (Cert.KernelIdeal.Hand.Wl (F := Ideal) m ρ c) (Proc.devRef .tc Cert.KernelIdeal.main_v167) = StableHlo.after (Cert.ReferenceIdeal.Hand.ops (F := Ideal)) (StableHlo.launchContents m' c) (Proc.devRef .tc Cert.ReferenceIdeal.main_v1512) := by
  have hk := StableHlo.Ascending.eq_binary Cert.KernelIdeal.Hand.KOps_asc (Cert.KernelIdeal.Hand.Wl m ρ c) (Cert.KernelIdeal.Hand.mem_KOps_st5 (Cert.KernelIdeal.Hand.mem_st_5 (List.getElem_mem (l := Cert.KernelIdeal.GenP.hostOps5 (F := Ideal)) (n := 139) (by decide)))) rfl rfl rfl (by decide) (by decide) (a := Cert.KernelIdeal.main_v166) (b := Cert.KernelIdeal.main_cst_24) (y := Cert.KernelIdeal.main_v167) (f := open Cert.KernelIdeal Cert.KernelIdeal.Gen in (fun x v => Host.reduceAdd (F := Ideal) x v reducesTo_S2048x256_S2048_d1 h_S_)) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part30 (List.getElem_mem (l := Cert.ReferenceIdeal.Hand.ops_part30 (F := Ideal)) (n := 54) (by decide))) rfl rfl rfl (by decide) (by decide) (a := Cert.ReferenceIdeal.main_v1511) (b := Cert.ReferenceIdeal.main_cst_323) (y := Cert.ReferenceIdeal.main_v1512) (f := open Cert.ReferenceIdeal Cert.ReferenceIdeal.Gen in (fun x v => Host.reduceAdd (F := Ideal) x v reducesTo_S2048x256_S2048_d1 h_S_)) (ha := ⟨by decide, rfl⟩) (hb := ⟨by decide, rfl⟩) (hy := ⟨by decide, rfl⟩)
  rw [hk, hr, ← c_main_v166__main_v1511 hag hel, ← c_main_cst_24__main_cst_323 hag hel]

theorem c_main_v167__main_v1636 : StableHlo.after Cert.KernelIdeal.Hand.KOps (Cert.KernelIdeal.Hand.Wl (F := Ideal) m ρ c) (Proc.devRef .tc Cert.KernelIdeal.main_v167) = StableHlo.after (Cert.ReferenceIdeal.Hand.ops (F := Ideal)) (StableHlo.launchContents m' c) (Proc.devRef .tc Cert.ReferenceIdeal.main_v1636) := by
  have hk := StableHlo.Ascending.eq_binary Cert.KernelIdeal.Hand.KOps_asc (Cert.KernelIdeal.Hand.Wl m ρ c) (Cert.KernelIdeal.Hand.mem_KOps_st5 (Cert.KernelIdeal.Hand.mem_st_5 (List.getElem_mem (l := Cert.KernelIdeal.GenP.hostOps5 (F := Ideal)) (n := 139) (by decide)))) rfl rfl rfl (by decide) (by decide) (a := Cert.KernelIdeal.main_v166) (b := Cert.KernelIdeal.main_cst_24) (y := Cert.KernelIdeal.main_v167) (f := open Cert.KernelIdeal Cert.KernelIdeal.Gen in (fun x v => Host.reduceAdd (F := Ideal) x v reducesTo_S2048x256_S2048_d1 h_S_)) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part33 (List.getElem_mem (l := Cert.ReferenceIdeal.Hand.ops_part33 (F := Ideal)) (n := 24) (by decide))) rfl rfl rfl (by decide) (by decide) (a := Cert.ReferenceIdeal.main_v1635) (b := Cert.ReferenceIdeal.main_cst_351) (y := Cert.ReferenceIdeal.main_v1636) (f := open Cert.ReferenceIdeal Cert.ReferenceIdeal.Gen in (fun x v => Host.reduceAdd (F := Ideal) x v reducesTo_S2048x256_S2048_d1 h_S_)) (ha := ⟨by decide, rfl⟩) (hb := ⟨by decide, rfl⟩) (hy := ⟨by decide, rfl⟩)
  rw [hk, hr, ← c_main_v166__main_v1635 hag hel, ← c_main_cst_24__main_cst_351 hag hel]

theorem c_main_v168__main_v1265 : StableHlo.after Cert.KernelIdeal.Hand.KOps (Cert.KernelIdeal.Hand.Wl (F := Ideal) m ρ c) (Proc.devRef .tc Cert.KernelIdeal.main_v168) = StableHlo.after (Cert.ReferenceIdeal.Hand.ops (F := Ideal)) (StableHlo.launchContents m' c) (Proc.devRef .tc Cert.ReferenceIdeal.main_v1265) := by
  have hk := StableHlo.Ascending.eq_unary Cert.KernelIdeal.Hand.KOps_asc (Cert.KernelIdeal.Hand.Wl m ρ c) (Cert.KernelIdeal.Hand.mem_KOps_st5 (Cert.KernelIdeal.Hand.mem_st_5 (List.getElem_mem (l := Cert.KernelIdeal.GenP.hostOps5 (F := Ideal)) (n := 140) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part25 (List.getElem_mem (l := Cert.ReferenceIdeal.Hand.ops_part25 (F := Ideal)) (n := 35) (by decide))) rfl rfl (by decide) (hx := ⟨by decide, rfl⟩) (hy := ⟨by decide, rfl⟩)
  rw [hk, hr, ← c_main_v167__main_v1264 hag hel]

theorem c_main_v168__main_v1389 : StableHlo.after Cert.KernelIdeal.Hand.KOps (Cert.KernelIdeal.Hand.Wl (F := Ideal) m ρ c) (Proc.devRef .tc Cert.KernelIdeal.main_v168) = StableHlo.after (Cert.ReferenceIdeal.Hand.ops (F := Ideal)) (StableHlo.launchContents m' c) (Proc.devRef .tc Cert.ReferenceIdeal.main_v1389) := by
  have hk := StableHlo.Ascending.eq_unary Cert.KernelIdeal.Hand.KOps_asc (Cert.KernelIdeal.Hand.Wl m ρ c) (Cert.KernelIdeal.Hand.mem_KOps_st5 (Cert.KernelIdeal.Hand.mem_st_5 (List.getElem_mem (l := Cert.KernelIdeal.GenP.hostOps5 (F := Ideal)) (n := 140) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part28 (List.getElem_mem (l := Cert.ReferenceIdeal.Hand.ops_part28 (F := Ideal)) (n := 7) (by decide))) rfl rfl (by decide) (hx := ⟨by decide, rfl⟩) (hy := ⟨by decide, rfl⟩)
  rw [hk, hr, ← c_main_v167__main_v1388 hag hel]

theorem c_main_v168__main_v1513 : StableHlo.after Cert.KernelIdeal.Hand.KOps (Cert.KernelIdeal.Hand.Wl (F := Ideal) m ρ c) (Proc.devRef .tc Cert.KernelIdeal.main_v168) = StableHlo.after (Cert.ReferenceIdeal.Hand.ops (F := Ideal)) (StableHlo.launchContents m' c) (Proc.devRef .tc Cert.ReferenceIdeal.main_v1513) := by
  have hk := StableHlo.Ascending.eq_unary Cert.KernelIdeal.Hand.KOps_asc (Cert.KernelIdeal.Hand.Wl m ρ c) (Cert.KernelIdeal.Hand.mem_KOps_st5 (Cert.KernelIdeal.Hand.mem_st_5 (List.getElem_mem (l := Cert.KernelIdeal.GenP.hostOps5 (F := Ideal)) (n := 140) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part30 (List.getElem_mem (l := Cert.ReferenceIdeal.Hand.ops_part30 (F := Ideal)) (n := 55) (by decide))) rfl rfl (by decide) (hx := ⟨by decide, rfl⟩) (hy := ⟨by decide, rfl⟩)
  rw [hk, hr, ← c_main_v167__main_v1512 hag hel]

theorem c_main_v168__main_v1637 : StableHlo.after Cert.KernelIdeal.Hand.KOps (Cert.KernelIdeal.Hand.Wl (F := Ideal) m ρ c) (Proc.devRef .tc Cert.KernelIdeal.main_v168) = StableHlo.after (Cert.ReferenceIdeal.Hand.ops (F := Ideal)) (StableHlo.launchContents m' c) (Proc.devRef .tc Cert.ReferenceIdeal.main_v1637) := by
  have hk := StableHlo.Ascending.eq_unary Cert.KernelIdeal.Hand.KOps_asc (Cert.KernelIdeal.Hand.Wl m ρ c) (Cert.KernelIdeal.Hand.mem_KOps_st5 (Cert.KernelIdeal.Hand.mem_st_5 (List.getElem_mem (l := Cert.KernelIdeal.GenP.hostOps5 (F := Ideal)) (n := 140) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part33 (List.getElem_mem (l := Cert.ReferenceIdeal.Hand.ops_part33 (F := Ideal)) (n := 25) (by decide))) rfl rfl (by decide) (hx := ⟨by decide, rfl⟩) (hy := ⟨by decide, rfl⟩)
  rw [hk, hr, ← c_main_v167__main_v1636 hag hel]

theorem c_main_v169__main_v1266 : StableHlo.after Cert.KernelIdeal.Hand.KOps (Cert.KernelIdeal.Hand.Wl (F := Ideal) m ρ c) (Proc.devRef .tc Cert.KernelIdeal.main_v169) = StableHlo.after (Cert.ReferenceIdeal.Hand.ops (F := Ideal)) (StableHlo.launchContents m' c) (Proc.devRef .tc Cert.ReferenceIdeal.main_v1266) := by
  have hk := StableHlo.Ascending.eq_unary Cert.KernelIdeal.Hand.KOps_asc (Cert.KernelIdeal.Hand.Wl m ρ c) (Cert.KernelIdeal.Hand.mem_KOps_st5 (Cert.KernelIdeal.Hand.mem_st_5 (List.getElem_mem (l := Cert.KernelIdeal.GenP.hostOps5 (F := Ideal)) (n := 141) (by decide)))) rfl rfl (by decide) (x := Cert.KernelIdeal.main_v45) (y := Cert.KernelIdeal.main_v169) (f := open Cert.KernelIdeal Cert.KernelIdeal.Gen in (transpose S256x2048 [1, 0] · transposes_S2048x256_S256x2048_1_0)) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part25 (List.getElem_mem (l := Cert.ReferenceIdeal.Hand.ops_part25 (F := Ideal)) (n := 36) (by decide))) rfl rfl (by decide) (x := Cert.ReferenceIdeal.main_v144) (y := Cert.ReferenceIdeal.main_v1266) (f := open Cert.ReferenceIdeal Cert.ReferenceIdeal.Gen in (transpose S256x2048 [1, 0] · transposes_S2048x256_S256x2048_1_0)) (hx := ⟨by decide, rfl⟩) (hy := ⟨by decide, rfl⟩)
  rw [hk, hr, ← c_main_v45__main_v144 hag hel]

theorem c_main_v169__main_v1390 : StableHlo.after Cert.KernelIdeal.Hand.KOps (Cert.KernelIdeal.Hand.Wl (F := Ideal) m ρ c) (Proc.devRef .tc Cert.KernelIdeal.main_v169) = StableHlo.after (Cert.ReferenceIdeal.Hand.ops (F := Ideal)) (StableHlo.launchContents m' c) (Proc.devRef .tc Cert.ReferenceIdeal.main_v1390) := by
  have hk := StableHlo.Ascending.eq_unary Cert.KernelIdeal.Hand.KOps_asc (Cert.KernelIdeal.Hand.Wl m ρ c) (Cert.KernelIdeal.Hand.mem_KOps_st5 (Cert.KernelIdeal.Hand.mem_st_5 (List.getElem_mem (l := Cert.KernelIdeal.GenP.hostOps5 (F := Ideal)) (n := 141) (by decide)))) rfl rfl (by decide) (x := Cert.KernelIdeal.main_v45) (y := Cert.KernelIdeal.main_v169) (f := open Cert.KernelIdeal Cert.KernelIdeal.Gen in (transpose S256x2048 [1, 0] · transposes_S2048x256_S256x2048_1_0)) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part28 (List.getElem_mem (l := Cert.ReferenceIdeal.Hand.ops_part28 (F := Ideal)) (n := 8) (by decide))) rfl rfl (by decide) (x := Cert.ReferenceIdeal.main_v144) (y := Cert.ReferenceIdeal.main_v1390) (f := open Cert.ReferenceIdeal Cert.ReferenceIdeal.Gen in (transpose S256x2048 [1, 0] · transposes_S2048x256_S256x2048_1_0)) (hx := ⟨by decide, rfl⟩) (hy := ⟨by decide, rfl⟩)
  rw [hk, hr, ← c_main_v45__main_v144 hag hel]

theorem c_main_v169__main_v1514 : StableHlo.after Cert.KernelIdeal.Hand.KOps (Cert.KernelIdeal.Hand.Wl (F := Ideal) m ρ c) (Proc.devRef .tc Cert.KernelIdeal.main_v169) = StableHlo.after (Cert.ReferenceIdeal.Hand.ops (F := Ideal)) (StableHlo.launchContents m' c) (Proc.devRef .tc Cert.ReferenceIdeal.main_v1514) := by
  have hk := StableHlo.Ascending.eq_unary Cert.KernelIdeal.Hand.KOps_asc (Cert.KernelIdeal.Hand.Wl m ρ c) (Cert.KernelIdeal.Hand.mem_KOps_st5 (Cert.KernelIdeal.Hand.mem_st_5 (List.getElem_mem (l := Cert.KernelIdeal.GenP.hostOps5 (F := Ideal)) (n := 141) (by decide)))) rfl rfl (by decide) (x := Cert.KernelIdeal.main_v45) (y := Cert.KernelIdeal.main_v169) (f := open Cert.KernelIdeal Cert.KernelIdeal.Gen in (transpose S256x2048 [1, 0] · transposes_S2048x256_S256x2048_1_0)) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part30 (List.getElem_mem (l := Cert.ReferenceIdeal.Hand.ops_part30 (F := Ideal)) (n := 56) (by decide))) rfl rfl (by decide) (x := Cert.ReferenceIdeal.main_v144) (y := Cert.ReferenceIdeal.main_v1514) (f := open Cert.ReferenceIdeal Cert.ReferenceIdeal.Gen in (transpose S256x2048 [1, 0] · transposes_S2048x256_S256x2048_1_0)) (hx := ⟨by decide, rfl⟩) (hy := ⟨by decide, rfl⟩)
  rw [hk, hr, ← c_main_v45__main_v144 hag hel]

theorem c_main_v169__main_v1638 : StableHlo.after Cert.KernelIdeal.Hand.KOps (Cert.KernelIdeal.Hand.Wl (F := Ideal) m ρ c) (Proc.devRef .tc Cert.KernelIdeal.main_v169) = StableHlo.after (Cert.ReferenceIdeal.Hand.ops (F := Ideal)) (StableHlo.launchContents m' c) (Proc.devRef .tc Cert.ReferenceIdeal.main_v1638) := by
  have hk := StableHlo.Ascending.eq_unary Cert.KernelIdeal.Hand.KOps_asc (Cert.KernelIdeal.Hand.Wl m ρ c) (Cert.KernelIdeal.Hand.mem_KOps_st5 (Cert.KernelIdeal.Hand.mem_st_5 (List.getElem_mem (l := Cert.KernelIdeal.GenP.hostOps5 (F := Ideal)) (n := 141) (by decide)))) rfl rfl (by decide) (x := Cert.KernelIdeal.main_v45) (y := Cert.KernelIdeal.main_v169) (f := open Cert.KernelIdeal Cert.KernelIdeal.Gen in (transpose S256x2048 [1, 0] · transposes_S2048x256_S256x2048_1_0)) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part33 (List.getElem_mem (l := Cert.ReferenceIdeal.Hand.ops_part33 (F := Ideal)) (n := 26) (by decide))) rfl rfl (by decide) (x := Cert.ReferenceIdeal.main_v144) (y := Cert.ReferenceIdeal.main_v1638) (f := open Cert.ReferenceIdeal Cert.ReferenceIdeal.Gen in (transpose S256x2048 [1, 0] · transposes_S2048x256_S256x2048_1_0)) (hx := ⟨by decide, rfl⟩) (hy := ⟨by decide, rfl⟩)
  rw [hk, hr, ← c_main_v45__main_v144 hag hel]

theorem c_main_v170__main_v1267 : StableHlo.after Cert.KernelIdeal.Hand.KOps (Cert.KernelIdeal.Hand.Wl (F := Ideal) m ρ c) (Proc.devRef .tc Cert.KernelIdeal.main_v170) = StableHlo.after (Cert.ReferenceIdeal.Hand.ops (F := Ideal)) (StableHlo.launchContents m' c) (Proc.devRef .tc Cert.ReferenceIdeal.main_v1267) := by
  have hk := StableHlo.Ascending.eq_binary Cert.KernelIdeal.Hand.KOps_asc (Cert.KernelIdeal.Hand.Wl m ρ c) Cert.KernelIdeal.Hand.mem_KOps_reg5 rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part25 (List.getElem_mem (l := Cert.ReferenceIdeal.Hand.ops_part25 (F := Ideal)) (n := 37) (by decide))) rfl rfl rfl (by decide) (by decide) (ha := ⟨by decide, rfl⟩) (hb := ⟨by decide, rfl⟩) (hy := ⟨by decide, rfl⟩)
  rw [hk, hr, ← c_main_v45__main_v144 hag hel, ← c_main_v169__main_v1266 hag hel]
  exact Cert.KernelIdeal.Hand.dot_eq5 _ _

theorem c_main_v170__main_v1391 : StableHlo.after Cert.KernelIdeal.Hand.KOps (Cert.KernelIdeal.Hand.Wl (F := Ideal) m ρ c) (Proc.devRef .tc Cert.KernelIdeal.main_v170) = StableHlo.after (Cert.ReferenceIdeal.Hand.ops (F := Ideal)) (StableHlo.launchContents m' c) (Proc.devRef .tc Cert.ReferenceIdeal.main_v1391) := by
  have hk := StableHlo.Ascending.eq_binary Cert.KernelIdeal.Hand.KOps_asc (Cert.KernelIdeal.Hand.Wl m ρ c) Cert.KernelIdeal.Hand.mem_KOps_reg5 rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part28 (List.getElem_mem (l := Cert.ReferenceIdeal.Hand.ops_part28 (F := Ideal)) (n := 9) (by decide))) rfl rfl rfl (by decide) (by decide) (ha := ⟨by decide, rfl⟩) (hb := ⟨by decide, rfl⟩) (hy := ⟨by decide, rfl⟩)
  rw [hk, hr, ← c_main_v45__main_v144 hag hel, ← c_main_v169__main_v1390 hag hel]
  exact Cert.KernelIdeal.Hand.dot_eq5 _ _

theorem c_main_v170__main_v1515 : StableHlo.after Cert.KernelIdeal.Hand.KOps (Cert.KernelIdeal.Hand.Wl (F := Ideal) m ρ c) (Proc.devRef .tc Cert.KernelIdeal.main_v170) = StableHlo.after (Cert.ReferenceIdeal.Hand.ops (F := Ideal)) (StableHlo.launchContents m' c) (Proc.devRef .tc Cert.ReferenceIdeal.main_v1515) := by
  have hk := StableHlo.Ascending.eq_binary Cert.KernelIdeal.Hand.KOps_asc (Cert.KernelIdeal.Hand.Wl m ρ c) Cert.KernelIdeal.Hand.mem_KOps_reg5 rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part30 (List.getElem_mem (l := Cert.ReferenceIdeal.Hand.ops_part30 (F := Ideal)) (n := 57) (by decide))) rfl rfl rfl (by decide) (by decide) (ha := ⟨by decide, rfl⟩) (hb := ⟨by decide, rfl⟩) (hy := ⟨by decide, rfl⟩)
  rw [hk, hr, ← c_main_v45__main_v144 hag hel, ← c_main_v169__main_v1514 hag hel]
  exact Cert.KernelIdeal.Hand.dot_eq5 _ _

theorem c_main_v170__main_v1639 : StableHlo.after Cert.KernelIdeal.Hand.KOps (Cert.KernelIdeal.Hand.Wl (F := Ideal) m ρ c) (Proc.devRef .tc Cert.KernelIdeal.main_v170) = StableHlo.after (Cert.ReferenceIdeal.Hand.ops (F := Ideal)) (StableHlo.launchContents m' c) (Proc.devRef .tc Cert.ReferenceIdeal.main_v1639) := by
  have hk := StableHlo.Ascending.eq_binary Cert.KernelIdeal.Hand.KOps_asc (Cert.KernelIdeal.Hand.Wl m ρ c) Cert.KernelIdeal.Hand.mem_KOps_reg5 rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part33 (List.getElem_mem (l := Cert.ReferenceIdeal.Hand.ops_part33 (F := Ideal)) (n := 27) (by decide))) rfl rfl rfl (by decide) (by decide) (ha := ⟨by decide, rfl⟩) (hb := ⟨by decide, rfl⟩) (hy := ⟨by decide, rfl⟩)
  rw [hk, hr, ← c_main_v45__main_v144 hag hel, ← c_main_v169__main_v1638 hag hel]
  exact Cert.KernelIdeal.Hand.dot_eq5 _ _

theorem c_main_v171__main_v1268 : StableHlo.after Cert.KernelIdeal.Hand.KOps (Cert.KernelIdeal.Hand.Wl (F := Ideal) m ρ c) (Proc.devRef .tc Cert.KernelIdeal.main_v171) = StableHlo.after (Cert.ReferenceIdeal.Hand.ops (F := Ideal)) (StableHlo.launchContents m' c) (Proc.devRef .tc Cert.ReferenceIdeal.main_v1268) := by
  have hk := StableHlo.Ascending.eq_unary Cert.KernelIdeal.Hand.KOps_asc (Cert.KernelIdeal.Hand.Wl m ρ c) (Cert.KernelIdeal.Hand.mem_KOps_st6 (Cert.KernelIdeal.Hand.mem_st_6 (List.getElem_mem (l := Cert.KernelIdeal.GenP.hostOps6 (F := Ideal)) (n := 0) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part25 (List.getElem_mem (l := Cert.ReferenceIdeal.Hand.ops_part25 (F := Ideal)) (n := 38) (by decide))) rfl rfl (by decide) (hx := ⟨by decide, rfl⟩) (hy := ⟨by decide, rfl⟩)
  rw [hk, hr, ← c_main_v168__main_v1265 hag hel]

theorem c_main_v171__main_v1392 : StableHlo.after Cert.KernelIdeal.Hand.KOps (Cert.KernelIdeal.Hand.Wl (F := Ideal) m ρ c) (Proc.devRef .tc Cert.KernelIdeal.main_v171) = StableHlo.after (Cert.ReferenceIdeal.Hand.ops (F := Ideal)) (StableHlo.launchContents m' c) (Proc.devRef .tc Cert.ReferenceIdeal.main_v1392) := by
  have hk := StableHlo.Ascending.eq_unary Cert.KernelIdeal.Hand.KOps_asc (Cert.KernelIdeal.Hand.Wl m ρ c) (Cert.KernelIdeal.Hand.mem_KOps_st6 (Cert.KernelIdeal.Hand.mem_st_6 (List.getElem_mem (l := Cert.KernelIdeal.GenP.hostOps6 (F := Ideal)) (n := 0) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part28 (List.getElem_mem (l := Cert.ReferenceIdeal.Hand.ops_part28 (F := Ideal)) (n := 10) (by decide))) rfl rfl (by decide) (hx := ⟨by decide, rfl⟩) (hy := ⟨by decide, rfl⟩)
  rw [hk, hr, ← c_main_v168__main_v1389 hag hel]

theorem c_main_v171__main_v1516 : StableHlo.after Cert.KernelIdeal.Hand.KOps (Cert.KernelIdeal.Hand.Wl (F := Ideal) m ρ c) (Proc.devRef .tc Cert.KernelIdeal.main_v171) = StableHlo.after (Cert.ReferenceIdeal.Hand.ops (F := Ideal)) (StableHlo.launchContents m' c) (Proc.devRef .tc Cert.ReferenceIdeal.main_v1516) := by
  have hk := StableHlo.Ascending.eq_unary Cert.KernelIdeal.Hand.KOps_asc (Cert.KernelIdeal.Hand.Wl m ρ c) (Cert.KernelIdeal.Hand.mem_KOps_st6 (Cert.KernelIdeal.Hand.mem_st_6 (List.getElem_mem (l := Cert.KernelIdeal.GenP.hostOps6 (F := Ideal)) (n := 0) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part30 (List.getElem_mem (l := Cert.ReferenceIdeal.Hand.ops_part30 (F := Ideal)) (n := 58) (by decide))) rfl rfl (by decide) (hx := ⟨by decide, rfl⟩) (hy := ⟨by decide, rfl⟩)
  rw [hk, hr, ← c_main_v168__main_v1513 hag hel]

theorem c_main_v171__main_v1640 : StableHlo.after Cert.KernelIdeal.Hand.KOps (Cert.KernelIdeal.Hand.Wl (F := Ideal) m ρ c) (Proc.devRef .tc Cert.KernelIdeal.main_v171) = StableHlo.after (Cert.ReferenceIdeal.Hand.ops (F := Ideal)) (StableHlo.launchContents m' c) (Proc.devRef .tc Cert.ReferenceIdeal.main_v1640) := by
  have hk := StableHlo.Ascending.eq_unary Cert.KernelIdeal.Hand.KOps_asc (Cert.KernelIdeal.Hand.Wl m ρ c) (Cert.KernelIdeal.Hand.mem_KOps_st6 (Cert.KernelIdeal.Hand.mem_st_6 (List.getElem_mem (l := Cert.KernelIdeal.GenP.hostOps6 (F := Ideal)) (n := 0) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part33 (List.getElem_mem (l := Cert.ReferenceIdeal.Hand.ops_part33 (F := Ideal)) (n := 28) (by decide))) rfl rfl (by decide) (hx := ⟨by decide, rfl⟩) (hy := ⟨by decide, rfl⟩)
  rw [hk, hr, ← c_main_v168__main_v1637 hag hel]

theorem c_main_v172__main_v1269 : StableHlo.after Cert.KernelIdeal.Hand.KOps (Cert.KernelIdeal.Hand.Wl (F := Ideal) m ρ c) (Proc.devRef .tc Cert.KernelIdeal.main_v172) = StableHlo.after (Cert.ReferenceIdeal.Hand.ops (F := Ideal)) (StableHlo.launchContents m' c) (Proc.devRef .tc Cert.ReferenceIdeal.main_v1269) := by
  have hk := StableHlo.Ascending.eq_unary Cert.KernelIdeal.Hand.KOps_asc (Cert.KernelIdeal.Hand.Wl m ρ c) (Cert.KernelIdeal.Hand.mem_KOps_st6 (Cert.KernelIdeal.Hand.mem_st_6 (List.getElem_mem (l := Cert.KernelIdeal.GenP.hostOps6 (F := Ideal)) (n := 1) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part25 (List.getElem_mem (l := Cert.ReferenceIdeal.Hand.ops_part25 (F := Ideal)) (n := 39) (by decide))) rfl rfl (by decide) (hx := ⟨by decide, rfl⟩) (hy := ⟨by decide, rfl⟩)
  rw [hk, hr, ← c_main_v168__main_v1265 hag hel]

theorem c_main_v172__main_v1393 : StableHlo.after Cert.KernelIdeal.Hand.KOps (Cert.KernelIdeal.Hand.Wl (F := Ideal) m ρ c) (Proc.devRef .tc Cert.KernelIdeal.main_v172) = StableHlo.after (Cert.ReferenceIdeal.Hand.ops (F := Ideal)) (StableHlo.launchContents m' c) (Proc.devRef .tc Cert.ReferenceIdeal.main_v1393) := by
  have hk := StableHlo.Ascending.eq_unary Cert.KernelIdeal.Hand.KOps_asc (Cert.KernelIdeal.Hand.Wl m ρ c) (Cert.KernelIdeal.Hand.mem_KOps_st6 (Cert.KernelIdeal.Hand.mem_st_6 (List.getElem_mem (l := Cert.KernelIdeal.GenP.hostOps6 (F := Ideal)) (n := 1) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part28 (List.getElem_mem (l := Cert.ReferenceIdeal.Hand.ops_part28 (F := Ideal)) (n := 11) (by decide))) rfl rfl (by decide) (hx := ⟨by decide, rfl⟩) (hy := ⟨by decide, rfl⟩)
  rw [hk, hr, ← c_main_v168__main_v1389 hag hel]

theorem c_main_v172__main_v1517 : StableHlo.after Cert.KernelIdeal.Hand.KOps (Cert.KernelIdeal.Hand.Wl (F := Ideal) m ρ c) (Proc.devRef .tc Cert.KernelIdeal.main_v172) = StableHlo.after (Cert.ReferenceIdeal.Hand.ops (F := Ideal)) (StableHlo.launchContents m' c) (Proc.devRef .tc Cert.ReferenceIdeal.main_v1517) := by
  have hk := StableHlo.Ascending.eq_unary Cert.KernelIdeal.Hand.KOps_asc (Cert.KernelIdeal.Hand.Wl m ρ c) (Cert.KernelIdeal.Hand.mem_KOps_st6 (Cert.KernelIdeal.Hand.mem_st_6 (List.getElem_mem (l := Cert.KernelIdeal.GenP.hostOps6 (F := Ideal)) (n := 1) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part30 (List.getElem_mem (l := Cert.ReferenceIdeal.Hand.ops_part30 (F := Ideal)) (n := 59) (by decide))) rfl rfl (by decide) (hx := ⟨by decide, rfl⟩) (hy := ⟨by decide, rfl⟩)
  rw [hk, hr, ← c_main_v168__main_v1513 hag hel]

theorem c_main_v172__main_v1641 : StableHlo.after Cert.KernelIdeal.Hand.KOps (Cert.KernelIdeal.Hand.Wl (F := Ideal) m ρ c) (Proc.devRef .tc Cert.KernelIdeal.main_v172) = StableHlo.after (Cert.ReferenceIdeal.Hand.ops (F := Ideal)) (StableHlo.launchContents m' c) (Proc.devRef .tc Cert.ReferenceIdeal.main_v1641) := by
  have hk := StableHlo.Ascending.eq_unary Cert.KernelIdeal.Hand.KOps_asc (Cert.KernelIdeal.Hand.Wl m ρ c) (Cert.KernelIdeal.Hand.mem_KOps_st6 (Cert.KernelIdeal.Hand.mem_st_6 (List.getElem_mem (l := Cert.KernelIdeal.GenP.hostOps6 (F := Ideal)) (n := 1) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part33 (List.getElem_mem (l := Cert.ReferenceIdeal.Hand.ops_part33 (F := Ideal)) (n := 29) (by decide))) rfl rfl (by decide) (hx := ⟨by decide, rfl⟩) (hy := ⟨by decide, rfl⟩)
  rw [hk, hr, ← c_main_v168__main_v1637 hag hel]

theorem c_main_v173__main_v1270 : StableHlo.after Cert.KernelIdeal.Hand.KOps (Cert.KernelIdeal.Hand.Wl (F := Ideal) m ρ c) (Proc.devRef .tc Cert.KernelIdeal.main_v173) = StableHlo.after (Cert.ReferenceIdeal.Hand.ops (F := Ideal)) (StableHlo.launchContents m' c) (Proc.devRef .tc Cert.ReferenceIdeal.main_v1270) := by
  have hk := StableHlo.Ascending.eq_unary Cert.KernelIdeal.Hand.KOps_asc (Cert.KernelIdeal.Hand.Wl m ρ c) (Cert.KernelIdeal.Hand.mem_KOps_st6 (Cert.KernelIdeal.Hand.mem_st_6 (List.getElem_mem (l := Cert.KernelIdeal.GenP.hostOps6 (F := Ideal)) (n := 2) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part25 (List.getElem_mem (l := Cert.ReferenceIdeal.Hand.ops_part25 (F := Ideal)) (n := 40) (by decide))) rfl rfl (by decide) (hx := ⟨by decide, rfl⟩) (hy := ⟨by decide, rfl⟩)
  rw [hk, hr, ← c_main_v171__main_v1268 hag hel]

theorem c_main_v173__main_v1394 : StableHlo.after Cert.KernelIdeal.Hand.KOps (Cert.KernelIdeal.Hand.Wl (F := Ideal) m ρ c) (Proc.devRef .tc Cert.KernelIdeal.main_v173) = StableHlo.after (Cert.ReferenceIdeal.Hand.ops (F := Ideal)) (StableHlo.launchContents m' c) (Proc.devRef .tc Cert.ReferenceIdeal.main_v1394) := by
  have hk := StableHlo.Ascending.eq_unary Cert.KernelIdeal.Hand.KOps_asc (Cert.KernelIdeal.Hand.Wl m ρ c) (Cert.KernelIdeal.Hand.mem_KOps_st6 (Cert.KernelIdeal.Hand.mem_st_6 (List.getElem_mem (l := Cert.KernelIdeal.GenP.hostOps6 (F := Ideal)) (n := 2) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part28 (List.getElem_mem (l := Cert.ReferenceIdeal.Hand.ops_part28 (F := Ideal)) (n := 12) (by decide))) rfl rfl (by decide) (hx := ⟨by decide, rfl⟩) (hy := ⟨by decide, rfl⟩)
  rw [hk, hr, ← c_main_v171__main_v1392 hag hel]

theorem c_main_v173__main_v1518 : StableHlo.after Cert.KernelIdeal.Hand.KOps (Cert.KernelIdeal.Hand.Wl (F := Ideal) m ρ c) (Proc.devRef .tc Cert.KernelIdeal.main_v173) = StableHlo.after (Cert.ReferenceIdeal.Hand.ops (F := Ideal)) (StableHlo.launchContents m' c) (Proc.devRef .tc Cert.ReferenceIdeal.main_v1518) := by
  have hk := StableHlo.Ascending.eq_unary Cert.KernelIdeal.Hand.KOps_asc (Cert.KernelIdeal.Hand.Wl m ρ c) (Cert.KernelIdeal.Hand.mem_KOps_st6 (Cert.KernelIdeal.Hand.mem_st_6 (List.getElem_mem (l := Cert.KernelIdeal.GenP.hostOps6 (F := Ideal)) (n := 2) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part30 (List.getElem_mem (l := Cert.ReferenceIdeal.Hand.ops_part30 (F := Ideal)) (n := 60) (by decide))) rfl rfl (by decide) (hx := ⟨by decide, rfl⟩) (hy := ⟨by decide, rfl⟩)
  rw [hk, hr, ← c_main_v171__main_v1516 hag hel]

theorem c_main_v173__main_v1642 : StableHlo.after Cert.KernelIdeal.Hand.KOps (Cert.KernelIdeal.Hand.Wl (F := Ideal) m ρ c) (Proc.devRef .tc Cert.KernelIdeal.main_v173) = StableHlo.after (Cert.ReferenceIdeal.Hand.ops (F := Ideal)) (StableHlo.launchContents m' c) (Proc.devRef .tc Cert.ReferenceIdeal.main_v1642) := by
  have hk := StableHlo.Ascending.eq_unary Cert.KernelIdeal.Hand.KOps_asc (Cert.KernelIdeal.Hand.Wl m ρ c) (Cert.KernelIdeal.Hand.mem_KOps_st6 (Cert.KernelIdeal.Hand.mem_st_6 (List.getElem_mem (l := Cert.KernelIdeal.GenP.hostOps6 (F := Ideal)) (n := 2) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part33 (List.getElem_mem (l := Cert.ReferenceIdeal.Hand.ops_part33 (F := Ideal)) (n := 30) (by decide))) rfl rfl (by decide) (hx := ⟨by decide, rfl⟩) (hy := ⟨by decide, rfl⟩)
  rw [hk, hr, ← c_main_v171__main_v1640 hag hel]

theorem c_main_v174__main_v1271 : StableHlo.after Cert.KernelIdeal.Hand.KOps (Cert.KernelIdeal.Hand.Wl (F := Ideal) m ρ c) (Proc.devRef .tc Cert.KernelIdeal.main_v174) = StableHlo.after (Cert.ReferenceIdeal.Hand.ops (F := Ideal)) (StableHlo.launchContents m' c) (Proc.devRef .tc Cert.ReferenceIdeal.main_v1271) := by
  have hk := StableHlo.Ascending.eq_unary Cert.KernelIdeal.Hand.KOps_asc (Cert.KernelIdeal.Hand.Wl m ρ c) (Cert.KernelIdeal.Hand.mem_KOps_st6 (Cert.KernelIdeal.Hand.mem_st_6 (List.getElem_mem (l := Cert.KernelIdeal.GenP.hostOps6 (F := Ideal)) (n := 3) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part25 (List.getElem_mem (l := Cert.ReferenceIdeal.Hand.ops_part25 (F := Ideal)) (n := 41) (by decide))) rfl rfl (by decide) (hx := ⟨by decide, rfl⟩) (hy := ⟨by decide, rfl⟩)
  rw [hk, hr, ← c_main_v172__main_v1269 hag hel]

theorem c_main_v174__main_v1395 : StableHlo.after Cert.KernelIdeal.Hand.KOps (Cert.KernelIdeal.Hand.Wl (F := Ideal) m ρ c) (Proc.devRef .tc Cert.KernelIdeal.main_v174) = StableHlo.after (Cert.ReferenceIdeal.Hand.ops (F := Ideal)) (StableHlo.launchContents m' c) (Proc.devRef .tc Cert.ReferenceIdeal.main_v1395) := by
  have hk := StableHlo.Ascending.eq_unary Cert.KernelIdeal.Hand.KOps_asc (Cert.KernelIdeal.Hand.Wl m ρ c) (Cert.KernelIdeal.Hand.mem_KOps_st6 (Cert.KernelIdeal.Hand.mem_st_6 (List.getElem_mem (l := Cert.KernelIdeal.GenP.hostOps6 (F := Ideal)) (n := 3) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part28 (List.getElem_mem (l := Cert.ReferenceIdeal.Hand.ops_part28 (F := Ideal)) (n := 13) (by decide))) rfl rfl (by decide) (hx := ⟨by decide, rfl⟩) (hy := ⟨by decide, rfl⟩)
  rw [hk, hr, ← c_main_v172__main_v1393 hag hel]

theorem c_main_v174__main_v1519 : StableHlo.after Cert.KernelIdeal.Hand.KOps (Cert.KernelIdeal.Hand.Wl (F := Ideal) m ρ c) (Proc.devRef .tc Cert.KernelIdeal.main_v174) = StableHlo.after (Cert.ReferenceIdeal.Hand.ops (F := Ideal)) (StableHlo.launchContents m' c) (Proc.devRef .tc Cert.ReferenceIdeal.main_v1519) := by
  have hk := StableHlo.Ascending.eq_unary Cert.KernelIdeal.Hand.KOps_asc (Cert.KernelIdeal.Hand.Wl m ρ c) (Cert.KernelIdeal.Hand.mem_KOps_st6 (Cert.KernelIdeal.Hand.mem_st_6 (List.getElem_mem (l := Cert.KernelIdeal.GenP.hostOps6 (F := Ideal)) (n := 3) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part30 (List.getElem_mem (l := Cert.ReferenceIdeal.Hand.ops_part30 (F := Ideal)) (n := 61) (by decide))) rfl rfl (by decide) (hx := ⟨by decide, rfl⟩) (hy := ⟨by decide, rfl⟩)
  rw [hk, hr, ← c_main_v172__main_v1517 hag hel]

end Cert.Value

end
-- ==== Proof.Val.C004.lean ====
/- Steps C004 of the value claim's chain: for each listed pair, the kernel program's buffer and its reference twin hold equal contents at the two programs' final
   valuations — the two operations are the same function (read off the two operation lists) of operands already paired. A table; written by: bun scratch/corr.js 60 -/
import proofs.«146970_j35948876268088_1_alg».proof.Proof.Val.Seed
import proofs.«146970_j35948876268088_1_alg».proof.Proof.KI.Dots
import Mathlib.Tactic.FinCases
import proofs.«146970_j35948876268088_1_alg».proof.Proof.Val.C003

set_option maxRecDepth 16384

noncomputable section

namespace Cert.Value

open Idealize.ShloMosaic Idealize.ShloMosaic.TcCoe Idealize.SL.Sem

variable {m : (ℓ : Loc Cert.KernelIdeal.nD Cert.KernelIdeal.τ Cert.KernelIdeal.sig) → Buf (Elt Ideal) ℓ} {ρ : Dev Cert.KernelIdeal.nD → PrngReg}
  {m' : (ℓ : Loc Cert.ReferenceIdeal.nD Cert.ReferenceIdeal.τ Cert.ReferenceIdeal.sig) → Buf (Elt Ideal) ℓ} {c : Dev Cert.KernelIdeal.nD} (hag : Agree m m') (hel : Els m' c)
include hag hel

theorem c_main_v174__main_v1643 : StableHlo.after Cert.KernelIdeal.Hand.KOps (Cert.KernelIdeal.Hand.Wl (F := Ideal) m ρ c) (Proc.devRef .tc Cert.KernelIdeal.main_v174) = StableHlo.after (Cert.ReferenceIdeal.Hand.ops (F := Ideal)) (StableHlo.launchContents m' c) (Proc.devRef .tc Cert.ReferenceIdeal.main_v1643) := by
  have hk := StableHlo.Ascending.eq_unary Cert.KernelIdeal.Hand.KOps_asc (Cert.KernelIdeal.Hand.Wl m ρ c) (Cert.KernelIdeal.Hand.mem_KOps_st6 (Cert.KernelIdeal.Hand.mem_st_6 (List.getElem_mem (l := Cert.KernelIdeal.GenP.hostOps6 (F := Ideal)) (n := 3) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part33 (List.getElem_mem (l := Cert.ReferenceIdeal.Hand.ops_part33 (F := Ideal)) (n := 31) (by decide))) rfl rfl (by decide) (hx := ⟨by decide, rfl⟩) (hy := ⟨by decide, rfl⟩)
  rw [hk, hr, ← c_main_v172__main_v1641 hag hel]

theorem c_main_v175__main_v1272 : StableHlo.after Cert.KernelIdeal.Hand.KOps (Cert.KernelIdeal.Hand.Wl (F := Ideal) m ρ c) (Proc.devRef .tc Cert.KernelIdeal.main_v175) = StableHlo.after (Cert.ReferenceIdeal.Hand.ops (F := Ideal)) (StableHlo.launchContents m' c) (Proc.devRef .tc Cert.ReferenceIdeal.main_v1272) := by
  have hk := StableHlo.Ascending.eq_binary Cert.KernelIdeal.Hand.KOps_asc (Cert.KernelIdeal.Hand.Wl m ρ c) (Cert.KernelIdeal.Hand.mem_KOps_st6 (Cert.KernelIdeal.Hand.mem_st_6 (List.getElem_mem (l := Cert.KernelIdeal.GenP.hostOps6 (F := Ideal)) (n := 4) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part25 (List.getElem_mem (l := Cert.ReferenceIdeal.Hand.ops_part25 (F := Ideal)) (n := 42) (by decide))) rfl rfl rfl (by decide) (by decide) (ha := ⟨by decide, rfl⟩) (hb := ⟨by decide, rfl⟩) (hy := ⟨by decide, rfl⟩)
  rw [hk, hr, ← c_main_v173__main_v1270 hag hel, ← c_main_v174__main_v1271 hag hel]

theorem c_main_v175__main_v1396 : StableHlo.after Cert.KernelIdeal.Hand.KOps (Cert.KernelIdeal.Hand.Wl (F := Ideal) m ρ c) (Proc.devRef .tc Cert.KernelIdeal.main_v175) = StableHlo.after (Cert.ReferenceIdeal.Hand.ops (F := Ideal)) (StableHlo.launchContents m' c) (Proc.devRef .tc Cert.ReferenceIdeal.main_v1396) := by
  have hk := StableHlo.Ascending.eq_binary Cert.KernelIdeal.Hand.KOps_asc (Cert.KernelIdeal.Hand.Wl m ρ c) (Cert.KernelIdeal.Hand.mem_KOps_st6 (Cert.KernelIdeal.Hand.mem_st_6 (List.getElem_mem (l := Cert.KernelIdeal.GenP.hostOps6 (F := Ideal)) (n := 4) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part28 (List.getElem_mem (l := Cert.ReferenceIdeal.Hand.ops_part28 (F := Ideal)) (n := 14) (by decide))) rfl rfl rfl (by decide) (by decide) (ha := ⟨by decide, rfl⟩) (hb := ⟨by decide, rfl⟩) (hy := ⟨by decide, rfl⟩)
  rw [hk, hr, ← c_main_v173__main_v1394 hag hel, ← c_main_v174__main_v1395 hag hel]

theorem c_main_v175__main_v1520 : StableHlo.after Cert.KernelIdeal.Hand.KOps (Cert.KernelIdeal.Hand.Wl (F := Ideal) m ρ c) (Proc.devRef .tc Cert.KernelIdeal.main_v175) = StableHlo.after (Cert.ReferenceIdeal.Hand.ops (F := Ideal)) (StableHlo.launchContents m' c) (Proc.devRef .tc Cert.ReferenceIdeal.main_v1520) := by
  have hk := StableHlo.Ascending.eq_binary Cert.KernelIdeal.Hand.KOps_asc (Cert.KernelIdeal.Hand.Wl m ρ c) (Cert.KernelIdeal.Hand.mem_KOps_st6 (Cert.KernelIdeal.Hand.mem_st_6 (List.getElem_mem (l := Cert.KernelIdeal.GenP.hostOps6 (F := Ideal)) (n := 4) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part30 (List.getElem_mem (l := Cert.ReferenceIdeal.Hand.ops_part30 (F := Ideal)) (n := 62) (by decide))) rfl rfl rfl (by decide) (by decide) (ha := ⟨by decide, rfl⟩) (hb := ⟨by decide, rfl⟩) (hy := ⟨by decide, rfl⟩)
  rw [hk, hr, ← c_main_v173__main_v1518 hag hel, ← c_main_v174__main_v1519 hag hel]

theorem c_main_v175__main_v1644 : StableHlo.after Cert.KernelIdeal.Hand.KOps (Cert.KernelIdeal.Hand.Wl (F := Ideal) m ρ c) (Proc.devRef .tc Cert.KernelIdeal.main_v175) = StableHlo.after (Cert.ReferenceIdeal.Hand.ops (F := Ideal)) (StableHlo.launchContents m' c) (Proc.devRef .tc Cert.ReferenceIdeal.main_v1644) := by
  have hk := StableHlo.Ascending.eq_binary Cert.KernelIdeal.Hand.KOps_asc (Cert.KernelIdeal.Hand.Wl m ρ c) (Cert.KernelIdeal.Hand.mem_KOps_st6 (Cert.KernelIdeal.Hand.mem_st_6 (List.getElem_mem (l := Cert.KernelIdeal.GenP.hostOps6 (F := Ideal)) (n := 4) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part33 (List.getElem_mem (l := Cert.ReferenceIdeal.Hand.ops_part33 (F := Ideal)) (n := 32) (by decide))) rfl rfl rfl (by decide) (by decide) (ha := ⟨by decide, rfl⟩) (hb := ⟨by decide, rfl⟩) (hy := ⟨by decide, rfl⟩)
  rw [hk, hr, ← c_main_v173__main_v1642 hag hel, ← c_main_v174__main_v1643 hag hel]

theorem c_main_v176__main_v1273 : StableHlo.after Cert.KernelIdeal.Hand.KOps (Cert.KernelIdeal.Hand.Wl (F := Ideal) m ρ c) (Proc.devRef .tc Cert.KernelIdeal.main_v176) = StableHlo.after (Cert.ReferenceIdeal.Hand.ops (F := Ideal)) (StableHlo.launchContents m' c) (Proc.devRef .tc Cert.ReferenceIdeal.main_v1273) := by
  have hk := StableHlo.Ascending.eq_binary Cert.KernelIdeal.Hand.KOps_asc (Cert.KernelIdeal.Hand.Wl m ρ c) (Cert.KernelIdeal.Hand.mem_KOps_st6 (Cert.KernelIdeal.Hand.mem_st_6 (List.getElem_mem (l := Cert.KernelIdeal.GenP.hostOps6 (F := Ideal)) (n := 5) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part25 (List.getElem_mem (l := Cert.ReferenceIdeal.Hand.ops_part25 (F := Ideal)) (n := 43) (by decide))) rfl rfl rfl (by decide) (by decide) (ha := ⟨by decide, rfl⟩) (hb := ⟨by decide, rfl⟩) (hy := ⟨by decide, rfl⟩)
  rw [hk, hr, ← c_main_v170__main_v1267 hag hel, ← c_main_v175__main_v1272 hag hel]

theorem c_main_v176__main_v1397 : StableHlo.after Cert.KernelIdeal.Hand.KOps (Cert.KernelIdeal.Hand.Wl (F := Ideal) m ρ c) (Proc.devRef .tc Cert.KernelIdeal.main_v176) = StableHlo.after (Cert.ReferenceIdeal.Hand.ops (F := Ideal)) (StableHlo.launchContents m' c) (Proc.devRef .tc Cert.ReferenceIdeal.main_v1397) := by
  have hk := StableHlo.Ascending.eq_binary Cert.KernelIdeal.Hand.KOps_asc (Cert.KernelIdeal.Hand.Wl m ρ c) (Cert.KernelIdeal.Hand.mem_KOps_st6 (Cert.KernelIdeal.Hand.mem_st_6 (List.getElem_mem (l := Cert.KernelIdeal.GenP.hostOps6 (F := Ideal)) (n := 5) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part28 (List.getElem_mem (l := Cert.ReferenceIdeal.Hand.ops_part28 (F := Ideal)) (n := 15) (by decide))) rfl rfl rfl (by decide) (by decide) (ha := ⟨by decide, rfl⟩) (hb := ⟨by decide, rfl⟩) (hy := ⟨by decide, rfl⟩)
  rw [hk, hr, ← c_main_v170__main_v1391 hag hel, ← c_main_v175__main_v1396 hag hel]

theorem c_main_v176__main_v1521 : StableHlo.after Cert.KernelIdeal.Hand.KOps (Cert.KernelIdeal.Hand.Wl (F := Ideal) m ρ c) (Proc.devRef .tc Cert.KernelIdeal.main_v176) = StableHlo.after (Cert.ReferenceIdeal.Hand.ops (F := Ideal)) (StableHlo.launchContents m' c) (Proc.devRef .tc Cert.ReferenceIdeal.main_v1521) := by
  have hk := StableHlo.Ascending.eq_binary Cert.KernelIdeal.Hand.KOps_asc (Cert.KernelIdeal.Hand.Wl m ρ c) (Cert.KernelIdeal.Hand.mem_KOps_st6 (Cert.KernelIdeal.Hand.mem_st_6 (List.getElem_mem (l := Cert.KernelIdeal.GenP.hostOps6 (F := Ideal)) (n := 5) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part30 (List.getElem_mem (l := Cert.ReferenceIdeal.Hand.ops_part30 (F := Ideal)) (n := 63) (by decide))) rfl rfl rfl (by decide) (by decide) (ha := ⟨by decide, rfl⟩) (hb := ⟨by decide, rfl⟩) (hy := ⟨by decide, rfl⟩)
  rw [hk, hr, ← c_main_v170__main_v1515 hag hel, ← c_main_v175__main_v1520 hag hel]

theorem c_main_v176__main_v1645 : StableHlo.after Cert.KernelIdeal.Hand.KOps (Cert.KernelIdeal.Hand.Wl (F := Ideal) m ρ c) (Proc.devRef .tc Cert.KernelIdeal.main_v176) = StableHlo.after (Cert.ReferenceIdeal.Hand.ops (F := Ideal)) (StableHlo.launchContents m' c) (Proc.devRef .tc Cert.ReferenceIdeal.main_v1645) := by
  have hk := StableHlo.Ascending.eq_binary Cert.KernelIdeal.Hand.KOps_asc (Cert.KernelIdeal.Hand.Wl m ρ c) (Cert.KernelIdeal.Hand.mem_KOps_st6 (Cert.KernelIdeal.Hand.mem_st_6 (List.getElem_mem (l := Cert.KernelIdeal.GenP.hostOps6 (F := Ideal)) (n := 5) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part33 (List.getElem_mem (l := Cert.ReferenceIdeal.Hand.ops_part33 (F := Ideal)) (n := 33) (by decide))) rfl rfl rfl (by decide) (by decide) (ha := ⟨by decide, rfl⟩) (hb := ⟨by decide, rfl⟩) (hy := ⟨by decide, rfl⟩)
  rw [hk, hr, ← c_main_v170__main_v1639 hag hel, ← c_main_v175__main_v1644 hag hel]

theorem c_main_v177__main_v1274 : StableHlo.after Cert.KernelIdeal.Hand.KOps (Cert.KernelIdeal.Hand.Wl (F := Ideal) m ρ c) (Proc.devRef .tc Cert.KernelIdeal.main_v177) = StableHlo.after (Cert.ReferenceIdeal.Hand.ops (F := Ideal)) (StableHlo.launchContents m' c) (Proc.devRef .tc Cert.ReferenceIdeal.main_v1274) := by
  have hk := StableHlo.Ascending.eq_nullary Cert.KernelIdeal.Hand.KOps_asc (Cert.KernelIdeal.Hand.Wl m ρ c) (Cert.KernelIdeal.Hand.mem_KOps_st6 (Cert.KernelIdeal.Hand.mem_st_6 (List.getElem_mem (l := Cert.KernelIdeal.GenP.hostOps6 (F := Ideal)) (n := 6) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part25 (List.getElem_mem (l := Cert.ReferenceIdeal.Hand.ops_part25 (F := Ideal)) (n := 44) (by decide))) rfl (hy := ⟨by decide, rfl⟩)
  rw [hk, hr]

theorem c_main_v177__main_v1398 : StableHlo.after Cert.KernelIdeal.Hand.KOps (Cert.KernelIdeal.Hand.Wl (F := Ideal) m ρ c) (Proc.devRef .tc Cert.KernelIdeal.main_v177) = StableHlo.after (Cert.ReferenceIdeal.Hand.ops (F := Ideal)) (StableHlo.launchContents m' c) (Proc.devRef .tc Cert.ReferenceIdeal.main_v1398) := by
  have hk := StableHlo.Ascending.eq_nullary Cert.KernelIdeal.Hand.KOps_asc (Cert.KernelIdeal.Hand.Wl m ρ c) (Cert.KernelIdeal.Hand.mem_KOps_st6 (Cert.KernelIdeal.Hand.mem_st_6 (List.getElem_mem (l := Cert.KernelIdeal.GenP.hostOps6 (F := Ideal)) (n := 6) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part28 (List.getElem_mem (l := Cert.ReferenceIdeal.Hand.ops_part28 (F := Ideal)) (n := 16) (by decide))) rfl (hy := ⟨by decide, rfl⟩)
  rw [hk, hr]

theorem c_main_v177__main_v1522 : StableHlo.after Cert.KernelIdeal.Hand.KOps (Cert.KernelIdeal.Hand.Wl (F := Ideal) m ρ c) (Proc.devRef .tc Cert.KernelIdeal.main_v177) = StableHlo.after (Cert.ReferenceIdeal.Hand.ops (F := Ideal)) (StableHlo.launchContents m' c) (Proc.devRef .tc Cert.ReferenceIdeal.main_v1522) := by
  have hk := StableHlo.Ascending.eq_nullary Cert.KernelIdeal.Hand.KOps_asc (Cert.KernelIdeal.Hand.Wl m ρ c) (Cert.KernelIdeal.Hand.mem_KOps_st6 (Cert.KernelIdeal.Hand.mem_st_6 (List.getElem_mem (l := Cert.KernelIdeal.GenP.hostOps6 (F := Ideal)) (n := 6) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part30 (List.getElem_mem (l := Cert.ReferenceIdeal.Hand.ops_part30 (F := Ideal)) (n := 64) (by decide))) rfl (hy := ⟨by decide, rfl⟩)
  rw [hk, hr]

theorem c_main_v177__main_v1646 : StableHlo.after Cert.KernelIdeal.Hand.KOps (Cert.KernelIdeal.Hand.Wl (F := Ideal) m ρ c) (Proc.devRef .tc Cert.KernelIdeal.main_v177) = StableHlo.after (Cert.ReferenceIdeal.Hand.ops (F := Ideal)) (StableHlo.launchContents m' c) (Proc.devRef .tc Cert.ReferenceIdeal.main_v1646) := by
  have hk := StableHlo.Ascending.eq_nullary Cert.KernelIdeal.Hand.KOps_asc (Cert.KernelIdeal.Hand.Wl m ρ c) (Cert.KernelIdeal.Hand.mem_KOps_st6 (Cert.KernelIdeal.Hand.mem_st_6 (List.getElem_mem (l := Cert.KernelIdeal.GenP.hostOps6 (F := Ideal)) (n := 6) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part33 (List.getElem_mem (l := Cert.ReferenceIdeal.Hand.ops_part33 (F := Ideal)) (n := 34) (by decide))) rfl (hy := ⟨by decide, rfl⟩)
  rw [hk, hr]

theorem c_main_v178__main_v1275 : StableHlo.after Cert.KernelIdeal.Hand.KOps (Cert.KernelIdeal.Hand.Wl (F := Ideal) m ρ c) (Proc.devRef .tc Cert.KernelIdeal.main_v178) = StableHlo.after (Cert.ReferenceIdeal.Hand.ops (F := Ideal)) (StableHlo.launchContents m' c) (Proc.devRef .tc Cert.ReferenceIdeal.main_v1275) := by
  have hk := StableHlo.Ascending.eq_nullary Cert.KernelIdeal.Hand.KOps_asc (Cert.KernelIdeal.Hand.Wl m ρ c) (Cert.KernelIdeal.Hand.mem_KOps_st6 (Cert.KernelIdeal.Hand.mem_st_6 (List.getElem_mem (l := Cert.KernelIdeal.GenP.hostOps6 (F := Ideal)) (n := 7) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part25 (List.getElem_mem (l := Cert.ReferenceIdeal.Hand.ops_part25 (F := Ideal)) (n := 45) (by decide))) rfl (hy := ⟨by decide, rfl⟩)
  rw [hk, hr]

theorem c_main_v178__main_v1399 : StableHlo.after Cert.KernelIdeal.Hand.KOps (Cert.KernelIdeal.Hand.Wl (F := Ideal) m ρ c) (Proc.devRef .tc Cert.KernelIdeal.main_v178) = StableHlo.after (Cert.ReferenceIdeal.Hand.ops (F := Ideal)) (StableHlo.launchContents m' c) (Proc.devRef .tc Cert.ReferenceIdeal.main_v1399) := by
  have hk := StableHlo.Ascending.eq_nullary Cert.KernelIdeal.Hand.KOps_asc (Cert.KernelIdeal.Hand.Wl m ρ c) (Cert.KernelIdeal.Hand.mem_KOps_st6 (Cert.KernelIdeal.Hand.mem_st_6 (List.getElem_mem (l := Cert.KernelIdeal.GenP.hostOps6 (F := Ideal)) (n := 7) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part28 (List.getElem_mem (l := Cert.ReferenceIdeal.Hand.ops_part28 (F := Ideal)) (n := 17) (by decide))) rfl (hy := ⟨by decide, rfl⟩)
  rw [hk, hr]

theorem c_main_v178__main_v1523 : StableHlo.after Cert.KernelIdeal.Hand.KOps (Cert.KernelIdeal.Hand.Wl (F := Ideal) m ρ c) (Proc.devRef .tc Cert.KernelIdeal.main_v178) = StableHlo.after (Cert.ReferenceIdeal.Hand.ops (F := Ideal)) (StableHlo.launchContents m' c) (Proc.devRef .tc Cert.ReferenceIdeal.main_v1523) := by
  have hk := StableHlo.Ascending.eq_nullary Cert.KernelIdeal.Hand.KOps_asc (Cert.KernelIdeal.Hand.Wl m ρ c) (Cert.KernelIdeal.Hand.mem_KOps_st6 (Cert.KernelIdeal.Hand.mem_st_6 (List.getElem_mem (l := Cert.KernelIdeal.GenP.hostOps6 (F := Ideal)) (n := 7) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part30 (List.getElem_mem (l := Cert.ReferenceIdeal.Hand.ops_part30 (F := Ideal)) (n := 65) (by decide))) rfl (hy := ⟨by decide, rfl⟩)
  rw [hk, hr]

theorem c_main_v178__main_v1647 : StableHlo.after Cert.KernelIdeal.Hand.KOps (Cert.KernelIdeal.Hand.Wl (F := Ideal) m ρ c) (Proc.devRef .tc Cert.KernelIdeal.main_v178) = StableHlo.after (Cert.ReferenceIdeal.Hand.ops (F := Ideal)) (StableHlo.launchContents m' c) (Proc.devRef .tc Cert.ReferenceIdeal.main_v1647) := by
  have hk := StableHlo.Ascending.eq_nullary Cert.KernelIdeal.Hand.KOps_asc (Cert.KernelIdeal.Hand.Wl m ρ c) (Cert.KernelIdeal.Hand.mem_KOps_st6 (Cert.KernelIdeal.Hand.mem_st_6 (List.getElem_mem (l := Cert.KernelIdeal.GenP.hostOps6 (F := Ideal)) (n := 7) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part33 (List.getElem_mem (l := Cert.ReferenceIdeal.Hand.ops_part33 (F := Ideal)) (n := 35) (by decide))) rfl (hy := ⟨by decide, rfl⟩)
  rw [hk, hr]

theorem c_main_c__main_c_268 : StableHlo.after Cert.KernelIdeal.Hand.KOps (Cert.KernelIdeal.Hand.Wl (F := Ideal) m ρ c) (Proc.devRef .tc Cert.KernelIdeal.main_c) = StableHlo.after (Cert.ReferenceIdeal.Hand.ops (F := Ideal)) (StableHlo.launchContents m' c) (Proc.devRef .tc Cert.ReferenceIdeal.main_c_268) := by
  have hk := StableHlo.Ascending.eq_nullary Cert.KernelIdeal.Hand.KOps_asc (Cert.KernelIdeal.Hand.Wl m ρ c) (Cert.KernelIdeal.Hand.mem_KOps_st6 (Cert.KernelIdeal.Hand.mem_st_6 (List.getElem_mem (l := Cert.KernelIdeal.GenP.hostOps6 (F := Ideal)) (n := 8) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part25 (List.getElem_mem (l := Cert.ReferenceIdeal.Hand.ops_part25 (F := Ideal)) (n := 46) (by decide))) rfl (hy := ⟨by decide, rfl⟩)
  rw [hk, hr]

theorem c_main_c__main_c_296 : StableHlo.after Cert.KernelIdeal.Hand.KOps (Cert.KernelIdeal.Hand.Wl (F := Ideal) m ρ c) (Proc.devRef .tc Cert.KernelIdeal.main_c) = StableHlo.after (Cert.ReferenceIdeal.Hand.ops (F := Ideal)) (StableHlo.launchContents m' c) (Proc.devRef .tc Cert.ReferenceIdeal.main_c_296) := by
  have hk := StableHlo.Ascending.eq_nullary Cert.KernelIdeal.Hand.KOps_asc (Cert.KernelIdeal.Hand.Wl m ρ c) (Cert.KernelIdeal.Hand.mem_KOps_st6 (Cert.KernelIdeal.Hand.mem_st_6 (List.getElem_mem (l := Cert.KernelIdeal.GenP.hostOps6 (F := Ideal)) (n := 8) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part28 (List.getElem_mem (l := Cert.ReferenceIdeal.Hand.ops_part28 (F := Ideal)) (n := 18) (by decide))) rfl (hy := ⟨by decide, rfl⟩)
  rw [hk, hr]

theorem c_main_c__main_c_324 : StableHlo.after Cert.KernelIdeal.Hand.KOps (Cert.KernelIdeal.Hand.Wl (F := Ideal) m ρ c) (Proc.devRef .tc Cert.KernelIdeal.main_c) = StableHlo.after (Cert.ReferenceIdeal.Hand.ops (F := Ideal)) (StableHlo.launchContents m' c) (Proc.devRef .tc Cert.ReferenceIdeal.main_c_324) := by
  have hk := StableHlo.Ascending.eq_nullary Cert.KernelIdeal.Hand.KOps_asc (Cert.KernelIdeal.Hand.Wl m ρ c) (Cert.KernelIdeal.Hand.mem_KOps_st6 (Cert.KernelIdeal.Hand.mem_st_6 (List.getElem_mem (l := Cert.KernelIdeal.GenP.hostOps6 (F := Ideal)) (n := 8) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part30 (List.getElem_mem (l := Cert.ReferenceIdeal.Hand.ops_part30 (F := Ideal)) (n := 66) (by decide))) rfl (hy := ⟨by decide, rfl⟩)
  rw [hk, hr]

theorem c_main_c__main_c_352 : StableHlo.after Cert.KernelIdeal.Hand.KOps (Cert.KernelIdeal.Hand.Wl (F := Ideal) m ρ c) (Proc.devRef .tc Cert.KernelIdeal.main_c) = StableHlo.after (Cert.ReferenceIdeal.Hand.ops (F := Ideal)) (StableHlo.launchContents m' c) (Proc.devRef .tc Cert.ReferenceIdeal.main_c_352) := by
  have hk := StableHlo.Ascending.eq_nullary Cert.KernelIdeal.Hand.KOps_asc (Cert.KernelIdeal.Hand.Wl m ρ c) (Cert.KernelIdeal.Hand.mem_KOps_st6 (Cert.KernelIdeal.Hand.mem_st_6 (List.getElem_mem (l := Cert.KernelIdeal.GenP.hostOps6 (F := Ideal)) (n := 8) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part33 (List.getElem_mem (l := Cert.ReferenceIdeal.Hand.ops_part33 (F := Ideal)) (n := 36) (by decide))) rfl (hy := ⟨by decide, rfl⟩)
  rw [hk, hr]

theorem c_main_v179__main_v1276 : StableHlo.after Cert.KernelIdeal.Hand.KOps (Cert.KernelIdeal.Hand.Wl (F := Ideal) m ρ c) (Proc.devRef .tc Cert.KernelIdeal.main_v179) = StableHlo.after (Cert.ReferenceIdeal.Hand.ops (F := Ideal)) (StableHlo.launchContents m' c) (Proc.devRef .tc Cert.ReferenceIdeal.main_v1276) := by
  have hk := StableHlo.Ascending.eq_unary Cert.KernelIdeal.Hand.KOps_asc (Cert.KernelIdeal.Hand.Wl m ρ c) (Cert.KernelIdeal.Hand.mem_KOps_st6 (Cert.KernelIdeal.Hand.mem_st_6 (List.getElem_mem (l := Cert.KernelIdeal.GenP.hostOps6 (F := Ideal)) (n := 9) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part25 (List.getElem_mem (l := Cert.ReferenceIdeal.Hand.ops_part25 (F := Ideal)) (n := 47) (by decide))) rfl rfl (by decide) (hx := ⟨by decide, rfl⟩) (hy := ⟨by decide, rfl⟩)
  rw [hk, hr, ← c_main_c__main_c_268 hag hel]

theorem c_main_v179__main_v1400 : StableHlo.after Cert.KernelIdeal.Hand.KOps (Cert.KernelIdeal.Hand.Wl (F := Ideal) m ρ c) (Proc.devRef .tc Cert.KernelIdeal.main_v179) = StableHlo.after (Cert.ReferenceIdeal.Hand.ops (F := Ideal)) (StableHlo.launchContents m' c) (Proc.devRef .tc Cert.ReferenceIdeal.main_v1400) := by
  have hk := StableHlo.Ascending.eq_unary Cert.KernelIdeal.Hand.KOps_asc (Cert.KernelIdeal.Hand.Wl m ρ c) (Cert.KernelIdeal.Hand.mem_KOps_st6 (Cert.KernelIdeal.Hand.mem_st_6 (List.getElem_mem (l := Cert.KernelIdeal.GenP.hostOps6 (F := Ideal)) (n := 9) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part28 (List.getElem_mem (l := Cert.ReferenceIdeal.Hand.ops_part28 (F := Ideal)) (n := 19) (by decide))) rfl rfl (by decide) (hx := ⟨by decide, rfl⟩) (hy := ⟨by decide, rfl⟩)
  rw [hk, hr, ← c_main_c__main_c_296 hag hel]

theorem c_main_v179__main_v1524 : StableHlo.after Cert.KernelIdeal.Hand.KOps (Cert.KernelIdeal.Hand.Wl (F := Ideal) m ρ c) (Proc.devRef .tc Cert.KernelIdeal.main_v179) = StableHlo.after (Cert.ReferenceIdeal.Hand.ops (F := Ideal)) (StableHlo.launchContents m' c) (Proc.devRef .tc Cert.ReferenceIdeal.main_v1524) := by
  have hk := StableHlo.Ascending.eq_unary Cert.KernelIdeal.Hand.KOps_asc (Cert.KernelIdeal.Hand.Wl m ρ c) (Cert.KernelIdeal.Hand.mem_KOps_st6 (Cert.KernelIdeal.Hand.mem_st_6 (List.getElem_mem (l := Cert.KernelIdeal.GenP.hostOps6 (F := Ideal)) (n := 9) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part30 (List.getElem_mem (l := Cert.ReferenceIdeal.Hand.ops_part30 (F := Ideal)) (n := 67) (by decide))) rfl rfl (by decide) (hx := ⟨by decide, rfl⟩) (hy := ⟨by decide, rfl⟩)
  rw [hk, hr, ← c_main_c__main_c_324 hag hel]

theorem c_main_v179__main_v1648 : StableHlo.after Cert.KernelIdeal.Hand.KOps (Cert.KernelIdeal.Hand.Wl (F := Ideal) m ρ c) (Proc.devRef .tc Cert.KernelIdeal.main_v179) = StableHlo.after (Cert.ReferenceIdeal.Hand.ops (F := Ideal)) (StableHlo.launchContents m' c) (Proc.devRef .tc Cert.ReferenceIdeal.main_v1648) := by
  have hk := StableHlo.Ascending.eq_unary Cert.KernelIdeal.Hand.KOps_asc (Cert.KernelIdeal.Hand.Wl m ρ c) (Cert.KernelIdeal.Hand.mem_KOps_st6 (Cert.KernelIdeal.Hand.mem_st_6 (List.getElem_mem (l := Cert.KernelIdeal.GenP.hostOps6 (F := Ideal)) (n := 9) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part33 (List.getElem_mem (l := Cert.ReferenceIdeal.Hand.ops_part33 (F := Ideal)) (n := 37) (by decide))) rfl rfl (by decide) (hx := ⟨by decide, rfl⟩) (hy := ⟨by decide, rfl⟩)
  rw [hk, hr, ← c_main_c__main_c_352 hag hel]

theorem c_main_v180__main_v1277 : StableHlo.after Cert.KernelIdeal.Hand.KOps (Cert.KernelIdeal.Hand.Wl (F := Ideal) m ρ c) (Proc.devRef .tc Cert.KernelIdeal.main_v180) = StableHlo.after (Cert.ReferenceIdeal.Hand.ops (F := Ideal)) (StableHlo.launchContents m' c) (Proc.devRef .tc Cert.ReferenceIdeal.main_v1277) := by
  have hk := StableHlo.Ascending.eq_binary Cert.KernelIdeal.Hand.KOps_asc (Cert.KernelIdeal.Hand.Wl m ρ c) (Cert.KernelIdeal.Hand.mem_KOps_st6 (Cert.KernelIdeal.Hand.mem_st_6 (List.getElem_mem (l := Cert.KernelIdeal.GenP.hostOps6 (F := Ideal)) (n := 10) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part25 (List.getElem_mem (l := Cert.ReferenceIdeal.Hand.ops_part25 (F := Ideal)) (n := 48) (by decide))) rfl rfl rfl (by decide) (by decide) (ha := ⟨by decide, rfl⟩) (hb := ⟨by decide, rfl⟩) (hy := ⟨by decide, rfl⟩)
  rw [hk, hr, ← c_main_v177__main_v1274 hag hel, ← c_main_v179__main_v1276 hag hel]

theorem c_main_v180__main_v1401 : StableHlo.after Cert.KernelIdeal.Hand.KOps (Cert.KernelIdeal.Hand.Wl (F := Ideal) m ρ c) (Proc.devRef .tc Cert.KernelIdeal.main_v180) = StableHlo.after (Cert.ReferenceIdeal.Hand.ops (F := Ideal)) (StableHlo.launchContents m' c) (Proc.devRef .tc Cert.ReferenceIdeal.main_v1401) := by
  have hk := StableHlo.Ascending.eq_binary Cert.KernelIdeal.Hand.KOps_asc (Cert.KernelIdeal.Hand.Wl m ρ c) (Cert.KernelIdeal.Hand.mem_KOps_st6 (Cert.KernelIdeal.Hand.mem_st_6 (List.getElem_mem (l := Cert.KernelIdeal.GenP.hostOps6 (F := Ideal)) (n := 10) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part28 (List.getElem_mem (l := Cert.ReferenceIdeal.Hand.ops_part28 (F := Ideal)) (n := 20) (by decide))) rfl rfl rfl (by decide) (by decide) (ha := ⟨by decide, rfl⟩) (hb := ⟨by decide, rfl⟩) (hy := ⟨by decide, rfl⟩)
  rw [hk, hr, ← c_main_v177__main_v1398 hag hel, ← c_main_v179__main_v1400 hag hel]

theorem c_main_v180__main_v1525 : StableHlo.after Cert.KernelIdeal.Hand.KOps (Cert.KernelIdeal.Hand.Wl (F := Ideal) m ρ c) (Proc.devRef .tc Cert.KernelIdeal.main_v180) = StableHlo.after (Cert.ReferenceIdeal.Hand.ops (F := Ideal)) (StableHlo.launchContents m' c) (Proc.devRef .tc Cert.ReferenceIdeal.main_v1525) := by
  have hk := StableHlo.Ascending.eq_binary Cert.KernelIdeal.Hand.KOps_asc (Cert.KernelIdeal.Hand.Wl m ρ c) (Cert.KernelIdeal.Hand.mem_KOps_st6 (Cert.KernelIdeal.Hand.mem_st_6 (List.getElem_mem (l := Cert.KernelIdeal.GenP.hostOps6 (F := Ideal)) (n := 10) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part30 (List.getElem_mem (l := Cert.ReferenceIdeal.Hand.ops_part30 (F := Ideal)) (n := 68) (by decide))) rfl rfl rfl (by decide) (by decide) (ha := ⟨by decide, rfl⟩) (hb := ⟨by decide, rfl⟩) (hy := ⟨by decide, rfl⟩)
  rw [hk, hr, ← c_main_v177__main_v1522 hag hel, ← c_main_v179__main_v1524 hag hel]

theorem c_main_v180__main_v1649 : StableHlo.after Cert.KernelIdeal.Hand.KOps (Cert.KernelIdeal.Hand.Wl (F := Ideal) m ρ c) (Proc.devRef .tc Cert.KernelIdeal.main_v180) = StableHlo.after (Cert.ReferenceIdeal.Hand.ops (F := Ideal)) (StableHlo.launchContents m' c) (Proc.devRef .tc Cert.ReferenceIdeal.main_v1649) := by
  have hk := StableHlo.Ascending.eq_binary Cert.KernelIdeal.Hand.KOps_asc (Cert.KernelIdeal.Hand.Wl m ρ c) (Cert.KernelIdeal.Hand.mem_KOps_st6 (Cert.KernelIdeal.Hand.mem_st_6 (List.getElem_mem (l := Cert.KernelIdeal.GenP.hostOps6 (F := Ideal)) (n := 10) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part33 (List.getElem_mem (l := Cert.ReferenceIdeal.Hand.ops_part33 (F := Ideal)) (n := 38) (by decide))) rfl rfl rfl (by decide) (by decide) (ha := ⟨by decide, rfl⟩) (hb := ⟨by decide, rfl⟩) (hy := ⟨by decide, rfl⟩)
  rw [hk, hr, ← c_main_v177__main_v1646 hag hel, ← c_main_v179__main_v1648 hag hel]

theorem c_main_v181__main_v1278 : StableHlo.after Cert.KernelIdeal.Hand.KOps (Cert.KernelIdeal.Hand.Wl (F := Ideal) m ρ c) (Proc.devRef .tc Cert.KernelIdeal.main_v181) = StableHlo.after (Cert.ReferenceIdeal.Hand.ops (F := Ideal)) (StableHlo.launchContents m' c) (Proc.devRef .tc Cert.ReferenceIdeal.main_v1278) := by
  have hk := StableHlo.Ascending.eq_binary Cert.KernelIdeal.Hand.KOps_asc (Cert.KernelIdeal.Hand.Wl m ρ c) (Cert.KernelIdeal.Hand.mem_KOps_st6 (Cert.KernelIdeal.Hand.mem_st_6 (List.getElem_mem (l := Cert.KernelIdeal.GenP.hostOps6 (F := Ideal)) (n := 11) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part25 (List.getElem_mem (l := Cert.ReferenceIdeal.Hand.ops_part25 (F := Ideal)) (n := 49) (by decide))) rfl rfl rfl (by decide) (by decide) (ha := ⟨by decide, rfl⟩) (hb := ⟨by decide, rfl⟩) (hy := ⟨by decide, rfl⟩)
  rw [hk, hr, ← c_main_v180__main_v1277 hag hel, ← c_main_v178__main_v1275 hag hel]

theorem c_main_v181__main_v1402 : StableHlo.after Cert.KernelIdeal.Hand.KOps (Cert.KernelIdeal.Hand.Wl (F := Ideal) m ρ c) (Proc.devRef .tc Cert.KernelIdeal.main_v181) = StableHlo.after (Cert.ReferenceIdeal.Hand.ops (F := Ideal)) (StableHlo.launchContents m' c) (Proc.devRef .tc Cert.ReferenceIdeal.main_v1402) := by
  have hk := StableHlo.Ascending.eq_binary Cert.KernelIdeal.Hand.KOps_asc (Cert.KernelIdeal.Hand.Wl m ρ c) (Cert.KernelIdeal.Hand.mem_KOps_st6 (Cert.KernelIdeal.Hand.mem_st_6 (List.getElem_mem (l := Cert.KernelIdeal.GenP.hostOps6 (F := Ideal)) (n := 11) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part28 (List.getElem_mem (l := Cert.ReferenceIdeal.Hand.ops_part28 (F := Ideal)) (n := 21) (by decide))) rfl rfl rfl (by decide) (by decide) (ha := ⟨by decide, rfl⟩) (hb := ⟨by decide, rfl⟩) (hy := ⟨by decide, rfl⟩)
  rw [hk, hr, ← c_main_v180__main_v1401 hag hel, ← c_main_v178__main_v1399 hag hel]

theorem c_main_v181__main_v1526 : StableHlo.after Cert.KernelIdeal.Hand.KOps (Cert.KernelIdeal.Hand.Wl (F := Ideal) m ρ c) (Proc.devRef .tc Cert.KernelIdeal.main_v181) = StableHlo.after (Cert.ReferenceIdeal.Hand.ops (F := Ideal)) (StableHlo.launchContents m' c) (Proc.devRef .tc Cert.ReferenceIdeal.main_v1526) := by
  have hk := StableHlo.Ascending.eq_binary Cert.KernelIdeal.Hand.KOps_asc (Cert.KernelIdeal.Hand.Wl m ρ c) (Cert.KernelIdeal.Hand.mem_KOps_st6 (Cert.KernelIdeal.Hand.mem_st_6 (List.getElem_mem (l := Cert.KernelIdeal.GenP.hostOps6 (F := Ideal)) (n := 11) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part30 (List.getElem_mem (l := Cert.ReferenceIdeal.Hand.ops_part30 (F := Ideal)) (n := 69) (by decide))) rfl rfl rfl (by decide) (by decide) (ha := ⟨by decide, rfl⟩) (hb := ⟨by decide, rfl⟩) (hy := ⟨by decide, rfl⟩)
  rw [hk, hr, ← c_main_v180__main_v1525 hag hel, ← c_main_v178__main_v1523 hag hel]

theorem c_main_v181__main_v1650 : StableHlo.after Cert.KernelIdeal.Hand.KOps (Cert.KernelIdeal.Hand.Wl (F := Ideal) m ρ c) (Proc.devRef .tc Cert.KernelIdeal.main_v181) = StableHlo.after (Cert.ReferenceIdeal.Hand.ops (F := Ideal)) (StableHlo.launchContents m' c) (Proc.devRef .tc Cert.ReferenceIdeal.main_v1650) := by
  have hk := StableHlo.Ascending.eq_binary Cert.KernelIdeal.Hand.KOps_asc (Cert.KernelIdeal.Hand.Wl m ρ c) (Cert.KernelIdeal.Hand.mem_KOps_st6 (Cert.KernelIdeal.Hand.mem_st_6 (List.getElem_mem (l := Cert.KernelIdeal.GenP.hostOps6 (F := Ideal)) (n := 11) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part33 (List.getElem_mem (l := Cert.ReferenceIdeal.Hand.ops_part33 (F := Ideal)) (n := 39) (by decide))) rfl rfl rfl (by decide) (by decide) (ha := ⟨by decide, rfl⟩) (hb := ⟨by decide, rfl⟩) (hy := ⟨by decide, rfl⟩)
  rw [hk, hr, ← c_main_v180__main_v1649 hag hel, ← c_main_v178__main_v1647 hag hel]

theorem c_main_v182__main_v1279 : StableHlo.after Cert.KernelIdeal.Hand.KOps (Cert.KernelIdeal.Hand.Wl (F := Ideal) m ρ c) (Proc.devRef .tc Cert.KernelIdeal.main_v182) = StableHlo.after (Cert.ReferenceIdeal.Hand.ops (F := Ideal)) (StableHlo.launchContents m' c) (Proc.devRef .tc Cert.ReferenceIdeal.main_v1279) := by
  have hk := StableHlo.Ascending.eq_unary Cert.KernelIdeal.Hand.KOps_asc (Cert.KernelIdeal.Hand.Wl m ρ c) (Cert.KernelIdeal.Hand.mem_KOps_st6 (Cert.KernelIdeal.Hand.mem_st_6 (List.getElem_mem (l := Cert.KernelIdeal.GenP.hostOps6 (F := Ideal)) (n := 12) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part25 (List.getElem_mem (l := Cert.ReferenceIdeal.Hand.ops_part25 (F := Ideal)) (n := 50) (by decide))) rfl rfl (by decide) (hx := ⟨by decide, rfl⟩) (hy := ⟨by decide, rfl⟩)
  rw [hk, hr, ← c_main_v181__main_v1278 hag hel]

theorem c_main_v182__main_v1403 : StableHlo.after Cert.KernelIdeal.Hand.KOps (Cert.KernelIdeal.Hand.Wl (F := Ideal) m ρ c) (Proc.devRef .tc Cert.KernelIdeal.main_v182) = StableHlo.after (Cert.ReferenceIdeal.Hand.ops (F := Ideal)) (StableHlo.launchContents m' c) (Proc.devRef .tc Cert.ReferenceIdeal.main_v1403) := by
  have hk := StableHlo.Ascending.eq_unary Cert.KernelIdeal.Hand.KOps_asc (Cert.KernelIdeal.Hand.Wl m ρ c) (Cert.KernelIdeal.Hand.mem_KOps_st6 (Cert.KernelIdeal.Hand.mem_st_6 (List.getElem_mem (l := Cert.KernelIdeal.GenP.hostOps6 (F := Ideal)) (n := 12) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part28 (List.getElem_mem (l := Cert.ReferenceIdeal.Hand.ops_part28 (F := Ideal)) (n := 22) (by decide))) rfl rfl (by decide) (hx := ⟨by decide, rfl⟩) (hy := ⟨by decide, rfl⟩)
  rw [hk, hr, ← c_main_v181__main_v1402 hag hel]

theorem c_main_v182__main_v1527 : StableHlo.after Cert.KernelIdeal.Hand.KOps (Cert.KernelIdeal.Hand.Wl (F := Ideal) m ρ c) (Proc.devRef .tc Cert.KernelIdeal.main_v182) = StableHlo.after (Cert.ReferenceIdeal.Hand.ops (F := Ideal)) (StableHlo.launchContents m' c) (Proc.devRef .tc Cert.ReferenceIdeal.main_v1527) := by
  have hk := StableHlo.Ascending.eq_unary Cert.KernelIdeal.Hand.KOps_asc (Cert.KernelIdeal.Hand.Wl m ρ c) (Cert.KernelIdeal.Hand.mem_KOps_st6 (Cert.KernelIdeal.Hand.mem_st_6 (List.getElem_mem (l := Cert.KernelIdeal.GenP.hostOps6 (F := Ideal)) (n := 12) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part30 (List.getElem_mem (l := Cert.ReferenceIdeal.Hand.ops_part30 (F := Ideal)) (n := 70) (by decide))) rfl rfl (by decide) (hx := ⟨by decide, rfl⟩) (hy := ⟨by decide, rfl⟩)
  rw [hk, hr, ← c_main_v181__main_v1526 hag hel]

theorem c_main_v182__main_v1651 : StableHlo.after Cert.KernelIdeal.Hand.KOps (Cert.KernelIdeal.Hand.Wl (F := Ideal) m ρ c) (Proc.devRef .tc Cert.KernelIdeal.main_v182) = StableHlo.after (Cert.ReferenceIdeal.Hand.ops (F := Ideal)) (StableHlo.launchContents m' c) (Proc.devRef .tc Cert.ReferenceIdeal.main_v1651) := by
  have hk := StableHlo.Ascending.eq_unary Cert.KernelIdeal.Hand.KOps_asc (Cert.KernelIdeal.Hand.Wl m ρ c) (Cert.KernelIdeal.Hand.mem_KOps_st6 (Cert.KernelIdeal.Hand.mem_st_6 (List.getElem_mem (l := Cert.KernelIdeal.GenP.hostOps6 (F := Ideal)) (n := 12) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part33 (List.getElem_mem (l := Cert.ReferenceIdeal.Hand.ops_part33 (F := Ideal)) (n := 40) (by decide))) rfl rfl (by decide) (hx := ⟨by decide, rfl⟩) (hy := ⟨by decide, rfl⟩)
  rw [hk, hr, ← c_main_v181__main_v1650 hag hel]

theorem c_main_cst_25__main_cst_269 : StableHlo.after Cert.KernelIdeal.Hand.KOps (Cert.KernelIdeal.Hand.Wl (F := Ideal) m ρ c) (Proc.devRef .tc Cert.KernelIdeal.main_cst_25) = StableHlo.after (Cert.ReferenceIdeal.Hand.ops (F := Ideal)) (StableHlo.launchContents m' c) (Proc.devRef .tc Cert.ReferenceIdeal.main_cst_269) := by
  have hk := StableHlo.Ascending.eq_nullary Cert.KernelIdeal.Hand.KOps_asc (Cert.KernelIdeal.Hand.Wl m ρ c) (Cert.KernelIdeal.Hand.mem_KOps_st6 (Cert.KernelIdeal.Hand.mem_st_6 (List.getElem_mem (l := Cert.KernelIdeal.GenP.hostOps6 (F := Ideal)) (n := 13) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part25 (List.getElem_mem (l := Cert.ReferenceIdeal.Hand.ops_part25 (F := Ideal)) (n := 51) (by decide))) rfl (hy := ⟨by decide, rfl⟩)
  rw [hk, hr]

theorem c_main_cst_25__main_cst_297 : StableHlo.after Cert.KernelIdeal.Hand.KOps (Cert.KernelIdeal.Hand.Wl (F := Ideal) m ρ c) (Proc.devRef .tc Cert.KernelIdeal.main_cst_25) = StableHlo.after (Cert.ReferenceIdeal.Hand.ops (F := Ideal)) (StableHlo.launchContents m' c) (Proc.devRef .tc Cert.ReferenceIdeal.main_cst_297) := by
  have hk := StableHlo.Ascending.eq_nullary Cert.KernelIdeal.Hand.KOps_asc (Cert.KernelIdeal.Hand.Wl m ρ c) (Cert.KernelIdeal.Hand.mem_KOps_st6 (Cert.KernelIdeal.Hand.mem_st_6 (List.getElem_mem (l := Cert.KernelIdeal.GenP.hostOps6 (F := Ideal)) (n := 13) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part28 (List.getElem_mem (l := Cert.ReferenceIdeal.Hand.ops_part28 (F := Ideal)) (n := 23) (by decide))) rfl (hy := ⟨by decide, rfl⟩)
  rw [hk, hr]

theorem c_main_cst_25__main_cst_325 : StableHlo.after Cert.KernelIdeal.Hand.KOps (Cert.KernelIdeal.Hand.Wl (F := Ideal) m ρ c) (Proc.devRef .tc Cert.KernelIdeal.main_cst_25) = StableHlo.after (Cert.ReferenceIdeal.Hand.ops (F := Ideal)) (StableHlo.launchContents m' c) (Proc.devRef .tc Cert.ReferenceIdeal.main_cst_325) := by
  have hk := StableHlo.Ascending.eq_nullary Cert.KernelIdeal.Hand.KOps_asc (Cert.KernelIdeal.Hand.Wl m ρ c) (Cert.KernelIdeal.Hand.mem_KOps_st6 (Cert.KernelIdeal.Hand.mem_st_6 (List.getElem_mem (l := Cert.KernelIdeal.GenP.hostOps6 (F := Ideal)) (n := 13) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part30 (List.getElem_mem (l := Cert.ReferenceIdeal.Hand.ops_part30 (F := Ideal)) (n := 71) (by decide))) rfl (hy := ⟨by decide, rfl⟩)
  rw [hk, hr]

theorem c_main_cst_25__main_cst_353 : StableHlo.after Cert.KernelIdeal.Hand.KOps (Cert.KernelIdeal.Hand.Wl (F := Ideal) m ρ c) (Proc.devRef .tc Cert.KernelIdeal.main_cst_25) = StableHlo.after (Cert.ReferenceIdeal.Hand.ops (F := Ideal)) (StableHlo.launchContents m' c) (Proc.devRef .tc Cert.ReferenceIdeal.main_cst_353) := by
  have hk := StableHlo.Ascending.eq_nullary Cert.KernelIdeal.Hand.KOps_asc (Cert.KernelIdeal.Hand.Wl m ρ c) (Cert.KernelIdeal.Hand.mem_KOps_st6 (Cert.KernelIdeal.Hand.mem_st_6 (List.getElem_mem (l := Cert.KernelIdeal.GenP.hostOps6 (F := Ideal)) (n := 13) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part33 (List.getElem_mem (l := Cert.ReferenceIdeal.Hand.ops_part33 (F := Ideal)) (n := 41) (by decide))) rfl (hy := ⟨by decide, rfl⟩)
  rw [hk, hr]

theorem c_main_v183__main_v1280 : StableHlo.after Cert.KernelIdeal.Hand.KOps (Cert.KernelIdeal.Hand.Wl (F := Ideal) m ρ c) (Proc.devRef .tc Cert.KernelIdeal.main_v183) = StableHlo.after (Cert.ReferenceIdeal.Hand.ops (F := Ideal)) (StableHlo.launchContents m' c) (Proc.devRef .tc Cert.ReferenceIdeal.main_v1280) := by
  have hk := StableHlo.Ascending.eq_unary Cert.KernelIdeal.Hand.KOps_asc (Cert.KernelIdeal.Hand.Wl m ρ c) (Cert.KernelIdeal.Hand.mem_KOps_st6 (Cert.KernelIdeal.Hand.mem_st_6 (List.getElem_mem (l := Cert.KernelIdeal.GenP.hostOps6 (F := Ideal)) (n := 14) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part25 (List.getElem_mem (l := Cert.ReferenceIdeal.Hand.ops_part25 (F := Ideal)) (n := 52) (by decide))) rfl rfl (by decide) (hx := ⟨by decide, rfl⟩) (hy := ⟨by decide, rfl⟩)
  rw [hk, hr, ← c_main_cst_25__main_cst_269 hag hel]

theorem c_main_v183__main_v1404 : StableHlo.after Cert.KernelIdeal.Hand.KOps (Cert.KernelIdeal.Hand.Wl (F := Ideal) m ρ c) (Proc.devRef .tc Cert.KernelIdeal.main_v183) = StableHlo.after (Cert.ReferenceIdeal.Hand.ops (F := Ideal)) (StableHlo.launchContents m' c) (Proc.devRef .tc Cert.ReferenceIdeal.main_v1404) := by
  have hk := StableHlo.Ascending.eq_unary Cert.KernelIdeal.Hand.KOps_asc (Cert.KernelIdeal.Hand.Wl m ρ c) (Cert.KernelIdeal.Hand.mem_KOps_st6 (Cert.KernelIdeal.Hand.mem_st_6 (List.getElem_mem (l := Cert.KernelIdeal.GenP.hostOps6 (F := Ideal)) (n := 14) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part28 (List.getElem_mem (l := Cert.ReferenceIdeal.Hand.ops_part28 (F := Ideal)) (n := 24) (by decide))) rfl rfl (by decide) (hx := ⟨by decide, rfl⟩) (hy := ⟨by decide, rfl⟩)
  rw [hk, hr, ← c_main_cst_25__main_cst_297 hag hel]

theorem c_main_v183__main_v1528 : StableHlo.after Cert.KernelIdeal.Hand.KOps (Cert.KernelIdeal.Hand.Wl (F := Ideal) m ρ c) (Proc.devRef .tc Cert.KernelIdeal.main_v183) = StableHlo.after (Cert.ReferenceIdeal.Hand.ops (F := Ideal)) (StableHlo.launchContents m' c) (Proc.devRef .tc Cert.ReferenceIdeal.main_v1528) := by
  have hk := StableHlo.Ascending.eq_unary Cert.KernelIdeal.Hand.KOps_asc (Cert.KernelIdeal.Hand.Wl m ρ c) (Cert.KernelIdeal.Hand.mem_KOps_st6 (Cert.KernelIdeal.Hand.mem_st_6 (List.getElem_mem (l := Cert.KernelIdeal.GenP.hostOps6 (F := Ideal)) (n := 14) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part30 (List.getElem_mem (l := Cert.ReferenceIdeal.Hand.ops_part30 (F := Ideal)) (n := 72) (by decide))) rfl rfl (by decide) (hx := ⟨by decide, rfl⟩) (hy := ⟨by decide, rfl⟩)
  rw [hk, hr, ← c_main_cst_25__main_cst_325 hag hel]

theorem c_main_v183__main_v1652 : StableHlo.after Cert.KernelIdeal.Hand.KOps (Cert.KernelIdeal.Hand.Wl (F := Ideal) m ρ c) (Proc.devRef .tc Cert.KernelIdeal.main_v183) = StableHlo.after (Cert.ReferenceIdeal.Hand.ops (F := Ideal)) (StableHlo.launchContents m' c) (Proc.devRef .tc Cert.ReferenceIdeal.main_v1652) := by
  have hk := StableHlo.Ascending.eq_unary Cert.KernelIdeal.Hand.KOps_asc (Cert.KernelIdeal.Hand.Wl m ρ c) (Cert.KernelIdeal.Hand.mem_KOps_st6 (Cert.KernelIdeal.Hand.mem_st_6 (List.getElem_mem (l := Cert.KernelIdeal.GenP.hostOps6 (F := Ideal)) (n := 14) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part33 (List.getElem_mem (l := Cert.ReferenceIdeal.Hand.ops_part33 (F := Ideal)) (n := 42) (by decide))) rfl rfl (by decide) (hx := ⟨by decide, rfl⟩) (hy := ⟨by decide, rfl⟩)
  rw [hk, hr, ← c_main_cst_25__main_cst_353 hag hel]

theorem c_main_v184__main_v1281 : StableHlo.after Cert.KernelIdeal.Hand.KOps (Cert.KernelIdeal.Hand.Wl (F := Ideal) m ρ c) (Proc.devRef .tc Cert.KernelIdeal.main_v184) = StableHlo.after (Cert.ReferenceIdeal.Hand.ops (F := Ideal)) (StableHlo.launchContents m' c) (Proc.devRef .tc Cert.ReferenceIdeal.main_v1281) := by
  have hk := StableHlo.Ascending.eq_binary Cert.KernelIdeal.Hand.KOps_asc (Cert.KernelIdeal.Hand.Wl m ρ c) (Cert.KernelIdeal.Hand.mem_KOps_st6 (Cert.KernelIdeal.Hand.mem_st_6 (List.getElem_mem (l := Cert.KernelIdeal.GenP.hostOps6 (F := Ideal)) (n := 15) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part25 (List.getElem_mem (l := Cert.ReferenceIdeal.Hand.ops_part25 (F := Ideal)) (n := 53) (by decide))) rfl rfl rfl (by decide) (by decide) (ha := ⟨by decide, rfl⟩) (hb := ⟨by decide, rfl⟩) (hy := ⟨by decide, rfl⟩)
  rw [hk, hr, ← c_main_v183__main_v1280 hag hel, ← c_main_v182__main_v1279 hag hel]

theorem c_main_v184__main_v1405 : StableHlo.after Cert.KernelIdeal.Hand.KOps (Cert.KernelIdeal.Hand.Wl (F := Ideal) m ρ c) (Proc.devRef .tc Cert.KernelIdeal.main_v184) = StableHlo.after (Cert.ReferenceIdeal.Hand.ops (F := Ideal)) (StableHlo.launchContents m' c) (Proc.devRef .tc Cert.ReferenceIdeal.main_v1405) := by
  have hk := StableHlo.Ascending.eq_binary Cert.KernelIdeal.Hand.KOps_asc (Cert.KernelIdeal.Hand.Wl m ρ c) (Cert.KernelIdeal.Hand.mem_KOps_st6 (Cert.KernelIdeal.Hand.mem_st_6 (List.getElem_mem (l := Cert.KernelIdeal.GenP.hostOps6 (F := Ideal)) (n := 15) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part28 (List.getElem_mem (l := Cert.ReferenceIdeal.Hand.ops_part28 (F := Ideal)) (n := 25) (by decide))) rfl rfl rfl (by decide) (by decide) (ha := ⟨by decide, rfl⟩) (hb := ⟨by decide, rfl⟩) (hy := ⟨by decide, rfl⟩)
  rw [hk, hr, ← c_main_v183__main_v1404 hag hel, ← c_main_v182__main_v1403 hag hel]

theorem c_main_v184__main_v1529 : StableHlo.after Cert.KernelIdeal.Hand.KOps (Cert.KernelIdeal.Hand.Wl (F := Ideal) m ρ c) (Proc.devRef .tc Cert.KernelIdeal.main_v184) = StableHlo.after (Cert.ReferenceIdeal.Hand.ops (F := Ideal)) (StableHlo.launchContents m' c) (Proc.devRef .tc Cert.ReferenceIdeal.main_v1529) := by
  have hk := StableHlo.Ascending.eq_binary Cert.KernelIdeal.Hand.KOps_asc (Cert.KernelIdeal.Hand.Wl m ρ c) (Cert.KernelIdeal.Hand.mem_KOps_st6 (Cert.KernelIdeal.Hand.mem_st_6 (List.getElem_mem (l := Cert.KernelIdeal.GenP.hostOps6 (F := Ideal)) (n := 15) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part30 (List.getElem_mem (l := Cert.ReferenceIdeal.Hand.ops_part30 (F := Ideal)) (n := 73) (by decide))) rfl rfl rfl (by decide) (by decide) (ha := ⟨by decide, rfl⟩) (hb := ⟨by decide, rfl⟩) (hy := ⟨by decide, rfl⟩)
  rw [hk, hr, ← c_main_v183__main_v1528 hag hel, ← c_main_v182__main_v1527 hag hel]

theorem c_main_v184__main_v1653 : StableHlo.after Cert.KernelIdeal.Hand.KOps (Cert.KernelIdeal.Hand.Wl (F := Ideal) m ρ c) (Proc.devRef .tc Cert.KernelIdeal.main_v184) = StableHlo.after (Cert.ReferenceIdeal.Hand.ops (F := Ideal)) (StableHlo.launchContents m' c) (Proc.devRef .tc Cert.ReferenceIdeal.main_v1653) := by
  have hk := StableHlo.Ascending.eq_binary Cert.KernelIdeal.Hand.KOps_asc (Cert.KernelIdeal.Hand.Wl m ρ c) (Cert.KernelIdeal.Hand.mem_KOps_st6 (Cert.KernelIdeal.Hand.mem_st_6 (List.getElem_mem (l := Cert.KernelIdeal.GenP.hostOps6 (F := Ideal)) (n := 15) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part33 (List.getElem_mem (l := Cert.ReferenceIdeal.Hand.ops_part33 (F := Ideal)) (n := 43) (by decide))) rfl rfl rfl (by decide) (by decide) (ha := ⟨by decide, rfl⟩) (hb := ⟨by decide, rfl⟩) (hy := ⟨by decide, rfl⟩)
  rw [hk, hr, ← c_main_v183__main_v1652 hag hel, ← c_main_v182__main_v1651 hag hel]

theorem c_main_cst_26__main_cst_270 : StableHlo.after Cert.KernelIdeal.Hand.KOps (Cert.KernelIdeal.Hand.Wl (F := Ideal) m ρ c) (Proc.devRef .tc Cert.KernelIdeal.main_cst_26) = StableHlo.after (Cert.ReferenceIdeal.Hand.ops (F := Ideal)) (StableHlo.launchContents m' c) (Proc.devRef .tc Cert.ReferenceIdeal.main_cst_270) := by
  have hk := StableHlo.Ascending.eq_nullary Cert.KernelIdeal.Hand.KOps_asc (Cert.KernelIdeal.Hand.Wl m ρ c) (Cert.KernelIdeal.Hand.mem_KOps_st6 (Cert.KernelIdeal.Hand.mem_st_6 (List.getElem_mem (l := Cert.KernelIdeal.GenP.hostOps6 (F := Ideal)) (n := 16) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part25 (List.getElem_mem (l := Cert.ReferenceIdeal.Hand.ops_part25 (F := Ideal)) (n := 54) (by decide))) rfl (hy := ⟨by decide, rfl⟩)
  rw [hk, hr]

theorem c_main_cst_26__main_cst_298 : StableHlo.after Cert.KernelIdeal.Hand.KOps (Cert.KernelIdeal.Hand.Wl (F := Ideal) m ρ c) (Proc.devRef .tc Cert.KernelIdeal.main_cst_26) = StableHlo.after (Cert.ReferenceIdeal.Hand.ops (F := Ideal)) (StableHlo.launchContents m' c) (Proc.devRef .tc Cert.ReferenceIdeal.main_cst_298) := by
  have hk := StableHlo.Ascending.eq_nullary Cert.KernelIdeal.Hand.KOps_asc (Cert.KernelIdeal.Hand.Wl m ρ c) (Cert.KernelIdeal.Hand.mem_KOps_st6 (Cert.KernelIdeal.Hand.mem_st_6 (List.getElem_mem (l := Cert.KernelIdeal.GenP.hostOps6 (F := Ideal)) (n := 16) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part28 (List.getElem_mem (l := Cert.ReferenceIdeal.Hand.ops_part28 (F := Ideal)) (n := 26) (by decide))) rfl (hy := ⟨by decide, rfl⟩)
  rw [hk, hr]

theorem c_main_cst_26__main_cst_326 : StableHlo.after Cert.KernelIdeal.Hand.KOps (Cert.KernelIdeal.Hand.Wl (F := Ideal) m ρ c) (Proc.devRef .tc Cert.KernelIdeal.main_cst_26) = StableHlo.after (Cert.ReferenceIdeal.Hand.ops (F := Ideal)) (StableHlo.launchContents m' c) (Proc.devRef .tc Cert.ReferenceIdeal.main_cst_326) := by
  have hk := StableHlo.Ascending.eq_nullary Cert.KernelIdeal.Hand.KOps_asc (Cert.KernelIdeal.Hand.Wl m ρ c) (Cert.KernelIdeal.Hand.mem_KOps_st6 (Cert.KernelIdeal.Hand.mem_st_6 (List.getElem_mem (l := Cert.KernelIdeal.GenP.hostOps6 (F := Ideal)) (n := 16) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part30 (List.getElem_mem (l := Cert.ReferenceIdeal.Hand.ops_part30 (F := Ideal)) (n := 74) (by decide))) rfl (hy := ⟨by decide, rfl⟩)
  rw [hk, hr]

theorem c_main_cst_26__main_cst_354 : StableHlo.after Cert.KernelIdeal.Hand.KOps (Cert.KernelIdeal.Hand.Wl (F := Ideal) m ρ c) (Proc.devRef .tc Cert.KernelIdeal.main_cst_26) = StableHlo.after (Cert.ReferenceIdeal.Hand.ops (F := Ideal)) (StableHlo.launchContents m' c) (Proc.devRef .tc Cert.ReferenceIdeal.main_cst_354) := by
  have hk := StableHlo.Ascending.eq_nullary Cert.KernelIdeal.Hand.KOps_asc (Cert.KernelIdeal.Hand.Wl m ρ c) (Cert.KernelIdeal.Hand.mem_KOps_st6 (Cert.KernelIdeal.Hand.mem_st_6 (List.getElem_mem (l := Cert.KernelIdeal.GenP.hostOps6 (F := Ideal)) (n := 16) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part33 (List.getElem_mem (l := Cert.ReferenceIdeal.Hand.ops_part33 (F := Ideal)) (n := 44) (by decide))) rfl (hy := ⟨by decide, rfl⟩)
  rw [hk, hr]

theorem c_main_v185__main_v1282 : StableHlo.after Cert.KernelIdeal.Hand.KOps (Cert.KernelIdeal.Hand.Wl (F := Ideal) m ρ c) (Proc.devRef .tc Cert.KernelIdeal.main_v185) = StableHlo.after (Cert.ReferenceIdeal.Hand.ops (F := Ideal)) (StableHlo.launchContents m' c) (Proc.devRef .tc Cert.ReferenceIdeal.main_v1282) := by
  have hk := StableHlo.Ascending.eq_unary Cert.KernelIdeal.Hand.KOps_asc (Cert.KernelIdeal.Hand.Wl m ρ c) (Cert.KernelIdeal.Hand.mem_KOps_st6 (Cert.KernelIdeal.Hand.mem_st_6 (List.getElem_mem (l := Cert.KernelIdeal.GenP.hostOps6 (F := Ideal)) (n := 17) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part25 (List.getElem_mem (l := Cert.ReferenceIdeal.Hand.ops_part25 (F := Ideal)) (n := 55) (by decide))) rfl rfl (by decide) (hx := ⟨by decide, rfl⟩) (hy := ⟨by decide, rfl⟩)
  rw [hk, hr, ← c_main_cst_26__main_cst_270 hag hel]

theorem c_main_v185__main_v1406 : StableHlo.after Cert.KernelIdeal.Hand.KOps (Cert.KernelIdeal.Hand.Wl (F := Ideal) m ρ c) (Proc.devRef .tc Cert.KernelIdeal.main_v185) = StableHlo.after (Cert.ReferenceIdeal.Hand.ops (F := Ideal)) (StableHlo.launchContents m' c) (Proc.devRef .tc Cert.ReferenceIdeal.main_v1406) := by
  have hk := StableHlo.Ascending.eq_unary Cert.KernelIdeal.Hand.KOps_asc (Cert.KernelIdeal.Hand.Wl m ρ c) (Cert.KernelIdeal.Hand.mem_KOps_st6 (Cert.KernelIdeal.Hand.mem_st_6 (List.getElem_mem (l := Cert.KernelIdeal.GenP.hostOps6 (F := Ideal)) (n := 17) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part28 (List.getElem_mem (l := Cert.ReferenceIdeal.Hand.ops_part28 (F := Ideal)) (n := 27) (by decide))) rfl rfl (by decide) (hx := ⟨by decide, rfl⟩) (hy := ⟨by decide, rfl⟩)
  rw [hk, hr, ← c_main_cst_26__main_cst_298 hag hel]

theorem c_main_v185__main_v1530 : StableHlo.after Cert.KernelIdeal.Hand.KOps (Cert.KernelIdeal.Hand.Wl (F := Ideal) m ρ c) (Proc.devRef .tc Cert.KernelIdeal.main_v185) = StableHlo.after (Cert.ReferenceIdeal.Hand.ops (F := Ideal)) (StableHlo.launchContents m' c) (Proc.devRef .tc Cert.ReferenceIdeal.main_v1530) := by
  have hk := StableHlo.Ascending.eq_unary Cert.KernelIdeal.Hand.KOps_asc (Cert.KernelIdeal.Hand.Wl m ρ c) (Cert.KernelIdeal.Hand.mem_KOps_st6 (Cert.KernelIdeal.Hand.mem_st_6 (List.getElem_mem (l := Cert.KernelIdeal.GenP.hostOps6 (F := Ideal)) (n := 17) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part30 (List.getElem_mem (l := Cert.ReferenceIdeal.Hand.ops_part30 (F := Ideal)) (n := 75) (by decide))) rfl rfl (by decide) (hx := ⟨by decide, rfl⟩) (hy := ⟨by decide, rfl⟩)
  rw [hk, hr, ← c_main_cst_26__main_cst_326 hag hel]

theorem c_main_v185__main_v1654 : StableHlo.after Cert.KernelIdeal.Hand.KOps (Cert.KernelIdeal.Hand.Wl (F := Ideal) m ρ c) (Proc.devRef .tc Cert.KernelIdeal.main_v185) = StableHlo.after (Cert.ReferenceIdeal.Hand.ops (F := Ideal)) (StableHlo.launchContents m' c) (Proc.devRef .tc Cert.ReferenceIdeal.main_v1654) := by
  have hk := StableHlo.Ascending.eq_unary Cert.KernelIdeal.Hand.KOps_asc (Cert.KernelIdeal.Hand.Wl m ρ c) (Cert.KernelIdeal.Hand.mem_KOps_st6 (Cert.KernelIdeal.Hand.mem_st_6 (List.getElem_mem (l := Cert.KernelIdeal.GenP.hostOps6 (F := Ideal)) (n := 17) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part33 (List.getElem_mem (l := Cert.ReferenceIdeal.Hand.ops_part33 (F := Ideal)) (n := 45) (by decide))) rfl rfl (by decide) (hx := ⟨by decide, rfl⟩) (hy := ⟨by decide, rfl⟩)
  rw [hk, hr, ← c_main_cst_26__main_cst_354 hag hel]

theorem c_main_v186__main_v1283 : StableHlo.after Cert.KernelIdeal.Hand.KOps (Cert.KernelIdeal.Hand.Wl (F := Ideal) m ρ c) (Proc.devRef .tc Cert.KernelIdeal.main_v186) = StableHlo.after (Cert.ReferenceIdeal.Hand.ops (F := Ideal)) (StableHlo.launchContents m' c) (Proc.devRef .tc Cert.ReferenceIdeal.main_v1283) := by
  have hk := StableHlo.Ascending.eq_binary Cert.KernelIdeal.Hand.KOps_asc (Cert.KernelIdeal.Hand.Wl m ρ c) (Cert.KernelIdeal.Hand.mem_KOps_st6 (Cert.KernelIdeal.Hand.mem_st_6 (List.getElem_mem (l := Cert.KernelIdeal.GenP.hostOps6 (F := Ideal)) (n := 18) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part25 (List.getElem_mem (l := Cert.ReferenceIdeal.Hand.ops_part25 (F := Ideal)) (n := 56) (by decide))) rfl rfl rfl (by decide) (by decide) (ha := ⟨by decide, rfl⟩) (hb := ⟨by decide, rfl⟩) (hy := ⟨by decide, rfl⟩)
  rw [hk, hr, ← c_main_v176__main_v1273 hag hel, ← c_main_v185__main_v1282 hag hel]

theorem c_main_v186__main_v1407 : StableHlo.after Cert.KernelIdeal.Hand.KOps (Cert.KernelIdeal.Hand.Wl (F := Ideal) m ρ c) (Proc.devRef .tc Cert.KernelIdeal.main_v186) = StableHlo.after (Cert.ReferenceIdeal.Hand.ops (F := Ideal)) (StableHlo.launchContents m' c) (Proc.devRef .tc Cert.ReferenceIdeal.main_v1407) := by
  have hk := StableHlo.Ascending.eq_binary Cert.KernelIdeal.Hand.KOps_asc (Cert.KernelIdeal.Hand.Wl m ρ c) (Cert.KernelIdeal.Hand.mem_KOps_st6 (Cert.KernelIdeal.Hand.mem_st_6 (List.getElem_mem (l := Cert.KernelIdeal.GenP.hostOps6 (F := Ideal)) (n := 18) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part28 (List.getElem_mem (l := Cert.ReferenceIdeal.Hand.ops_part28 (F := Ideal)) (n := 28) (by decide))) rfl rfl rfl (by decide) (by decide) (ha := ⟨by decide, rfl⟩) (hb := ⟨by decide, rfl⟩) (hy := ⟨by decide, rfl⟩)
  rw [hk, hr, ← c_main_v176__main_v1397 hag hel, ← c_main_v185__main_v1406 hag hel]

theorem c_main_v186__main_v1531 : StableHlo.after Cert.KernelIdeal.Hand.KOps (Cert.KernelIdeal.Hand.Wl (F := Ideal) m ρ c) (Proc.devRef .tc Cert.KernelIdeal.main_v186) = StableHlo.after (Cert.ReferenceIdeal.Hand.ops (F := Ideal)) (StableHlo.launchContents m' c) (Proc.devRef .tc Cert.ReferenceIdeal.main_v1531) := by
  have hk := StableHlo.Ascending.eq_binary Cert.KernelIdeal.Hand.KOps_asc (Cert.KernelIdeal.Hand.Wl m ρ c) (Cert.KernelIdeal.Hand.mem_KOps_st6 (Cert.KernelIdeal.Hand.mem_st_6 (List.getElem_mem (l := Cert.KernelIdeal.GenP.hostOps6 (F := Ideal)) (n := 18) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part31 (List.getElem_mem (l := Cert.ReferenceIdeal.Hand.ops_part31 (F := Ideal)) (n := 0) (by decide))) rfl rfl rfl (by decide) (by decide) (ha := ⟨by decide, rfl⟩) (hb := ⟨by decide, rfl⟩) (hy := ⟨by decide, rfl⟩)
  rw [hk, hr, ← c_main_v176__main_v1521 hag hel, ← c_main_v185__main_v1530 hag hel]

end Cert.Value

end
-- ==== Proof.Val.C005.lean ====
/- Steps C005 of the value claim's chain: for each listed pair, the kernel program's buffer and its reference twin hold equal contents at the two programs' final
   valuations — the two operations are the same function (read off the two operation lists) of operands already paired. A table; written by: bun scratch/corr.js 60 -/
import proofs.«146970_j35948876268088_1_alg».proof.Proof.Val.Seed
import proofs.«146970_j35948876268088_1_alg».proof.Proof.KI.Dots
import Mathlib.Tactic.FinCases
import proofs.«146970_j35948876268088_1_alg».proof.Proof.Val.C000
import proofs.«146970_j35948876268088_1_alg».proof.Proof.Val.C004

set_option maxRecDepth 16384

noncomputable section

namespace Cert.Value

open Idealize.ShloMosaic Idealize.ShloMosaic.TcCoe Idealize.SL.Sem

variable {m : (ℓ : Loc Cert.KernelIdeal.nD Cert.KernelIdeal.τ Cert.KernelIdeal.sig) → Buf (Elt Ideal) ℓ} {ρ : Dev Cert.KernelIdeal.nD → PrngReg}
  {m' : (ℓ : Loc Cert.ReferenceIdeal.nD Cert.ReferenceIdeal.τ Cert.ReferenceIdeal.sig) → Buf (Elt Ideal) ℓ} {c : Dev Cert.KernelIdeal.nD} (hag : Agree m m') (hel : Els m' c)
include hag hel

theorem c_main_v186__main_v1655 : StableHlo.after Cert.KernelIdeal.Hand.KOps (Cert.KernelIdeal.Hand.Wl (F := Ideal) m ρ c) (Proc.devRef .tc Cert.KernelIdeal.main_v186) = StableHlo.after (Cert.ReferenceIdeal.Hand.ops (F := Ideal)) (StableHlo.launchContents m' c) (Proc.devRef .tc Cert.ReferenceIdeal.main_v1655) := by
  have hk := StableHlo.Ascending.eq_binary Cert.KernelIdeal.Hand.KOps_asc (Cert.KernelIdeal.Hand.Wl m ρ c) (Cert.KernelIdeal.Hand.mem_KOps_st6 (Cert.KernelIdeal.Hand.mem_st_6 (List.getElem_mem (l := Cert.KernelIdeal.GenP.hostOps6 (F := Ideal)) (n := 18) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part33 (List.getElem_mem (l := Cert.ReferenceIdeal.Hand.ops_part33 (F := Ideal)) (n := 46) (by decide))) rfl rfl rfl (by decide) (by decide) (ha := ⟨by decide, rfl⟩) (hb := ⟨by decide, rfl⟩) (hy := ⟨by decide, rfl⟩)
  rw [hk, hr, ← c_main_v176__main_v1645 hag hel, ← c_main_v185__main_v1654 hag hel]

theorem c_main_cst_27__main_cst_271 : StableHlo.after Cert.KernelIdeal.Hand.KOps (Cert.KernelIdeal.Hand.Wl (F := Ideal) m ρ c) (Proc.devRef .tc Cert.KernelIdeal.main_cst_27) = StableHlo.after (Cert.ReferenceIdeal.Hand.ops (F := Ideal)) (StableHlo.launchContents m' c) (Proc.devRef .tc Cert.ReferenceIdeal.main_cst_271) := by
  have hk := StableHlo.Ascending.eq_nullary Cert.KernelIdeal.Hand.KOps_asc (Cert.KernelIdeal.Hand.Wl m ρ c) (Cert.KernelIdeal.Hand.mem_KOps_st6 (Cert.KernelIdeal.Hand.mem_st_6 (List.getElem_mem (l := Cert.KernelIdeal.GenP.hostOps6 (F := Ideal)) (n := 19) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part25 (List.getElem_mem (l := Cert.ReferenceIdeal.Hand.ops_part25 (F := Ideal)) (n := 57) (by decide))) rfl (hy := ⟨by decide, rfl⟩)
  rw [hk, hr]

theorem c_main_cst_27__main_cst_299 : StableHlo.after Cert.KernelIdeal.Hand.KOps (Cert.KernelIdeal.Hand.Wl (F := Ideal) m ρ c) (Proc.devRef .tc Cert.KernelIdeal.main_cst_27) = StableHlo.after (Cert.ReferenceIdeal.Hand.ops (F := Ideal)) (StableHlo.launchContents m' c) (Proc.devRef .tc Cert.ReferenceIdeal.main_cst_299) := by
  have hk := StableHlo.Ascending.eq_nullary Cert.KernelIdeal.Hand.KOps_asc (Cert.KernelIdeal.Hand.Wl m ρ c) (Cert.KernelIdeal.Hand.mem_KOps_st6 (Cert.KernelIdeal.Hand.mem_st_6 (List.getElem_mem (l := Cert.KernelIdeal.GenP.hostOps6 (F := Ideal)) (n := 19) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part28 (List.getElem_mem (l := Cert.ReferenceIdeal.Hand.ops_part28 (F := Ideal)) (n := 29) (by decide))) rfl (hy := ⟨by decide, rfl⟩)
  rw [hk, hr]

theorem c_main_cst_27__main_cst_327 : StableHlo.after Cert.KernelIdeal.Hand.KOps (Cert.KernelIdeal.Hand.Wl (F := Ideal) m ρ c) (Proc.devRef .tc Cert.KernelIdeal.main_cst_27) = StableHlo.after (Cert.ReferenceIdeal.Hand.ops (F := Ideal)) (StableHlo.launchContents m' c) (Proc.devRef .tc Cert.ReferenceIdeal.main_cst_327) := by
  have hk := StableHlo.Ascending.eq_nullary Cert.KernelIdeal.Hand.KOps_asc (Cert.KernelIdeal.Hand.Wl m ρ c) (Cert.KernelIdeal.Hand.mem_KOps_st6 (Cert.KernelIdeal.Hand.mem_st_6 (List.getElem_mem (l := Cert.KernelIdeal.GenP.hostOps6 (F := Ideal)) (n := 19) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part31 (List.getElem_mem (l := Cert.ReferenceIdeal.Hand.ops_part31 (F := Ideal)) (n := 1) (by decide))) rfl (hy := ⟨by decide, rfl⟩)
  rw [hk, hr]

theorem c_main_cst_27__main_cst_355 : StableHlo.after Cert.KernelIdeal.Hand.KOps (Cert.KernelIdeal.Hand.Wl (F := Ideal) m ρ c) (Proc.devRef .tc Cert.KernelIdeal.main_cst_27) = StableHlo.after (Cert.ReferenceIdeal.Hand.ops (F := Ideal)) (StableHlo.launchContents m' c) (Proc.devRef .tc Cert.ReferenceIdeal.main_cst_355) := by
  have hk := StableHlo.Ascending.eq_nullary Cert.KernelIdeal.Hand.KOps_asc (Cert.KernelIdeal.Hand.Wl m ρ c) (Cert.KernelIdeal.Hand.mem_KOps_st6 (Cert.KernelIdeal.Hand.mem_st_6 (List.getElem_mem (l := Cert.KernelIdeal.GenP.hostOps6 (F := Ideal)) (n := 19) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part33 (List.getElem_mem (l := Cert.ReferenceIdeal.Hand.ops_part33 (F := Ideal)) (n := 47) (by decide))) rfl (hy := ⟨by decide, rfl⟩)
  rw [hk, hr]

theorem c_main_call0_v0__main_call56_v0 : StableHlo.after Cert.KernelIdeal.Hand.KOps (Cert.KernelIdeal.Hand.Wl (F := Ideal) m ρ c) (Proc.devRef .tc Cert.KernelIdeal.main_call0_v0) = StableHlo.after (Cert.ReferenceIdeal.Hand.ops (F := Ideal)) (StableHlo.launchContents m' c) (Proc.devRef .tc Cert.ReferenceIdeal.main_call56_v0) := by
  have hk := StableHlo.Ascending.eq_unary Cert.KernelIdeal.Hand.KOps_asc (Cert.KernelIdeal.Hand.Wl m ρ c) (Cert.KernelIdeal.Hand.mem_KOps_st6 (Cert.KernelIdeal.Hand.mem_st_6_1 (List.getElem_mem (l := Cert.KernelIdeal.GenP.hostOps6_1 (F := Ideal)) (n := 0) (by decide)))) rfl rfl (by decide) (x := Cert.KernelIdeal.main_cst_27) (y := Cert.KernelIdeal.main_call0_v0) (f := open Cert.KernelIdeal Cert.KernelIdeal.Gen in id) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part25 (List.getElem_mem (l := Cert.ReferenceIdeal.Hand.ops_part25 (F := Ideal)) (n := 58) (by decide))) rfl rfl (by decide) (x := Cert.ReferenceIdeal.main_cst_271) (y := Cert.ReferenceIdeal.main_call56_v0) (f := open Cert.ReferenceIdeal Cert.ReferenceIdeal.Gen in id) (hx := ⟨by decide, rfl⟩) (hy := ⟨by decide, rfl⟩)
  rw [hk, hr, ← c_main_cst_27__main_cst_271 hag hel]

theorem c_main_call0_v0__main_call63_v0 : StableHlo.after Cert.KernelIdeal.Hand.KOps (Cert.KernelIdeal.Hand.Wl (F := Ideal) m ρ c) (Proc.devRef .tc Cert.KernelIdeal.main_call0_v0) = StableHlo.after (Cert.ReferenceIdeal.Hand.ops (F := Ideal)) (StableHlo.launchContents m' c) (Proc.devRef .tc Cert.ReferenceIdeal.main_call63_v0) := by
  have hk := StableHlo.Ascending.eq_unary Cert.KernelIdeal.Hand.KOps_asc (Cert.KernelIdeal.Hand.Wl m ρ c) (Cert.KernelIdeal.Hand.mem_KOps_st6 (Cert.KernelIdeal.Hand.mem_st_6_1 (List.getElem_mem (l := Cert.KernelIdeal.GenP.hostOps6_1 (F := Ideal)) (n := 0) (by decide)))) rfl rfl (by decide) (x := Cert.KernelIdeal.main_cst_27) (y := Cert.KernelIdeal.main_call0_v0) (f := open Cert.KernelIdeal Cert.KernelIdeal.Gen in id) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part28 (List.getElem_mem (l := Cert.ReferenceIdeal.Hand.ops_part28 (F := Ideal)) (n := 30) (by decide))) rfl rfl (by decide) (x := Cert.ReferenceIdeal.main_cst_299) (y := Cert.ReferenceIdeal.main_call63_v0) (f := open Cert.ReferenceIdeal Cert.ReferenceIdeal.Gen in id) (hx := ⟨by decide, rfl⟩) (hy := ⟨by decide, rfl⟩)
  rw [hk, hr, ← c_main_cst_27__main_cst_299 hag hel]

theorem c_main_call0_v0__main_call70_v0 : StableHlo.after Cert.KernelIdeal.Hand.KOps (Cert.KernelIdeal.Hand.Wl (F := Ideal) m ρ c) (Proc.devRef .tc Cert.KernelIdeal.main_call0_v0) = StableHlo.after (Cert.ReferenceIdeal.Hand.ops (F := Ideal)) (StableHlo.launchContents m' c) (Proc.devRef .tc Cert.ReferenceIdeal.main_call70_v0) := by
  have hk := StableHlo.Ascending.eq_unary Cert.KernelIdeal.Hand.KOps_asc (Cert.KernelIdeal.Hand.Wl m ρ c) (Cert.KernelIdeal.Hand.mem_KOps_st6 (Cert.KernelIdeal.Hand.mem_st_6_1 (List.getElem_mem (l := Cert.KernelIdeal.GenP.hostOps6_1 (F := Ideal)) (n := 0) (by decide)))) rfl rfl (by decide) (x := Cert.KernelIdeal.main_cst_27) (y := Cert.KernelIdeal.main_call0_v0) (f := open Cert.KernelIdeal Cert.KernelIdeal.Gen in id) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part31 (List.getElem_mem (l := Cert.ReferenceIdeal.Hand.ops_part31 (F := Ideal)) (n := 2) (by decide))) rfl rfl (by decide) (x := Cert.ReferenceIdeal.main_cst_327) (y := Cert.ReferenceIdeal.main_call70_v0) (f := open Cert.ReferenceIdeal Cert.ReferenceIdeal.Gen in id) (hx := ⟨by decide, rfl⟩) (hy := ⟨by decide, rfl⟩)
  rw [hk, hr, ← c_main_cst_27__main_cst_327 hag hel]

theorem c_main_call0_v0__main_call77_v0 : StableHlo.after Cert.KernelIdeal.Hand.KOps (Cert.KernelIdeal.Hand.Wl (F := Ideal) m ρ c) (Proc.devRef .tc Cert.KernelIdeal.main_call0_v0) = StableHlo.after (Cert.ReferenceIdeal.Hand.ops (F := Ideal)) (StableHlo.launchContents m' c) (Proc.devRef .tc Cert.ReferenceIdeal.main_call77_v0) := by
  have hk := StableHlo.Ascending.eq_unary Cert.KernelIdeal.Hand.KOps_asc (Cert.KernelIdeal.Hand.Wl m ρ c) (Cert.KernelIdeal.Hand.mem_KOps_st6 (Cert.KernelIdeal.Hand.mem_st_6_1 (List.getElem_mem (l := Cert.KernelIdeal.GenP.hostOps6_1 (F := Ideal)) (n := 0) (by decide)))) rfl rfl (by decide) (x := Cert.KernelIdeal.main_cst_27) (y := Cert.KernelIdeal.main_call0_v0) (f := open Cert.KernelIdeal Cert.KernelIdeal.Gen in id) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part33 (List.getElem_mem (l := Cert.ReferenceIdeal.Hand.ops_part33 (F := Ideal)) (n := 48) (by decide))) rfl rfl (by decide) (x := Cert.ReferenceIdeal.main_cst_355) (y := Cert.ReferenceIdeal.main_call77_v0) (f := open Cert.ReferenceIdeal Cert.ReferenceIdeal.Gen in id) (hx := ⟨by decide, rfl⟩) (hy := ⟨by decide, rfl⟩)
  rw [hk, hr, ← c_main_cst_27__main_cst_355 hag hel]

theorem c_main_call0_v1__main_call56_v1 : StableHlo.after Cert.KernelIdeal.Hand.KOps (Cert.KernelIdeal.Hand.Wl (F := Ideal) m ρ c) (Proc.devRef .tc Cert.KernelIdeal.main_call0_v1) = StableHlo.after (Cert.ReferenceIdeal.Hand.ops (F := Ideal)) (StableHlo.launchContents m' c) (Proc.devRef .tc Cert.ReferenceIdeal.main_call56_v1) := by
  have hk := StableHlo.Ascending.eq_unary Cert.KernelIdeal.Hand.KOps_asc (Cert.KernelIdeal.Hand.Wl m ρ c) (Cert.KernelIdeal.Hand.mem_KOps_st6 (Cert.KernelIdeal.Hand.mem_st_6_1 (List.getElem_mem (l := Cert.KernelIdeal.GenP.hostOps6_1 (F := Ideal)) (n := 1) (by decide)))) rfl rfl (by decide) (x := Cert.KernelIdeal.main_call0_v0) (y := Cert.KernelIdeal.main_call0_v1) (f := open Cert.KernelIdeal Cert.KernelIdeal.Gen in (broadcastInDim S2048x2048 ![] bcast_S_S2048x2048)) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part25 (List.getElem_mem (l := Cert.ReferenceIdeal.Hand.ops_part25 (F := Ideal)) (n := 59) (by decide))) rfl rfl (by decide) (x := Cert.ReferenceIdeal.main_call56_v0) (y := Cert.ReferenceIdeal.main_call56_v1) (f := open Cert.ReferenceIdeal Cert.ReferenceIdeal.Gen in (broadcastInDim S2048x2048 ![] bcast_S_S2048x2048)) (hx := ⟨by decide, rfl⟩) (hy := ⟨by decide, rfl⟩)
  rw [hk, hr, ← c_main_call0_v0__main_call56_v0 hag hel]

theorem c_main_call0_v1__main_call63_v1 : StableHlo.after Cert.KernelIdeal.Hand.KOps (Cert.KernelIdeal.Hand.Wl (F := Ideal) m ρ c) (Proc.devRef .tc Cert.KernelIdeal.main_call0_v1) = StableHlo.after (Cert.ReferenceIdeal.Hand.ops (F := Ideal)) (StableHlo.launchContents m' c) (Proc.devRef .tc Cert.ReferenceIdeal.main_call63_v1) := by
  have hk := StableHlo.Ascending.eq_unary Cert.KernelIdeal.Hand.KOps_asc (Cert.KernelIdeal.Hand.Wl m ρ c) (Cert.KernelIdeal.Hand.mem_KOps_st6 (Cert.KernelIdeal.Hand.mem_st_6_1 (List.getElem_mem (l := Cert.KernelIdeal.GenP.hostOps6_1 (F := Ideal)) (n := 1) (by decide)))) rfl rfl (by decide) (x := Cert.KernelIdeal.main_call0_v0) (y := Cert.KernelIdeal.main_call0_v1) (f := open Cert.KernelIdeal Cert.KernelIdeal.Gen in (broadcastInDim S2048x2048 ![] bcast_S_S2048x2048)) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part28 (List.getElem_mem (l := Cert.ReferenceIdeal.Hand.ops_part28 (F := Ideal)) (n := 31) (by decide))) rfl rfl (by decide) (x := Cert.ReferenceIdeal.main_call63_v0) (y := Cert.ReferenceIdeal.main_call63_v1) (f := open Cert.ReferenceIdeal Cert.ReferenceIdeal.Gen in (broadcastInDim S2048x2048 ![] bcast_S_S2048x2048)) (hx := ⟨by decide, rfl⟩) (hy := ⟨by decide, rfl⟩)
  rw [hk, hr, ← c_main_call0_v0__main_call63_v0 hag hel]

theorem c_main_call0_v1__main_call70_v1 : StableHlo.after Cert.KernelIdeal.Hand.KOps (Cert.KernelIdeal.Hand.Wl (F := Ideal) m ρ c) (Proc.devRef .tc Cert.KernelIdeal.main_call0_v1) = StableHlo.after (Cert.ReferenceIdeal.Hand.ops (F := Ideal)) (StableHlo.launchContents m' c) (Proc.devRef .tc Cert.ReferenceIdeal.main_call70_v1) := by
  have hk := StableHlo.Ascending.eq_unary Cert.KernelIdeal.Hand.KOps_asc (Cert.KernelIdeal.Hand.Wl m ρ c) (Cert.KernelIdeal.Hand.mem_KOps_st6 (Cert.KernelIdeal.Hand.mem_st_6_1 (List.getElem_mem (l := Cert.KernelIdeal.GenP.hostOps6_1 (F := Ideal)) (n := 1) (by decide)))) rfl rfl (by decide) (x := Cert.KernelIdeal.main_call0_v0) (y := Cert.KernelIdeal.main_call0_v1) (f := open Cert.KernelIdeal Cert.KernelIdeal.Gen in (broadcastInDim S2048x2048 ![] bcast_S_S2048x2048)) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part31 (List.getElem_mem (l := Cert.ReferenceIdeal.Hand.ops_part31 (F := Ideal)) (n := 3) (by decide))) rfl rfl (by decide) (x := Cert.ReferenceIdeal.main_call70_v0) (y := Cert.ReferenceIdeal.main_call70_v1) (f := open Cert.ReferenceIdeal Cert.ReferenceIdeal.Gen in (broadcastInDim S2048x2048 ![] bcast_S_S2048x2048)) (hx := ⟨by decide, rfl⟩) (hy := ⟨by decide, rfl⟩)
  rw [hk, hr, ← c_main_call0_v0__main_call70_v0 hag hel]

theorem c_main_call0_v1__main_call77_v1 : StableHlo.after Cert.KernelIdeal.Hand.KOps (Cert.KernelIdeal.Hand.Wl (F := Ideal) m ρ c) (Proc.devRef .tc Cert.KernelIdeal.main_call0_v1) = StableHlo.after (Cert.ReferenceIdeal.Hand.ops (F := Ideal)) (StableHlo.launchContents m' c) (Proc.devRef .tc Cert.ReferenceIdeal.main_call77_v1) := by
  have hk := StableHlo.Ascending.eq_unary Cert.KernelIdeal.Hand.KOps_asc (Cert.KernelIdeal.Hand.Wl m ρ c) (Cert.KernelIdeal.Hand.mem_KOps_st6 (Cert.KernelIdeal.Hand.mem_st_6_1 (List.getElem_mem (l := Cert.KernelIdeal.GenP.hostOps6_1 (F := Ideal)) (n := 1) (by decide)))) rfl rfl (by decide) (x := Cert.KernelIdeal.main_call0_v0) (y := Cert.KernelIdeal.main_call0_v1) (f := open Cert.KernelIdeal Cert.KernelIdeal.Gen in (broadcastInDim S2048x2048 ![] bcast_S_S2048x2048)) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part33 (List.getElem_mem (l := Cert.ReferenceIdeal.Hand.ops_part33 (F := Ideal)) (n := 49) (by decide))) rfl rfl (by decide) (x := Cert.ReferenceIdeal.main_call77_v0) (y := Cert.ReferenceIdeal.main_call77_v1) (f := open Cert.ReferenceIdeal Cert.ReferenceIdeal.Gen in (broadcastInDim S2048x2048 ![] bcast_S_S2048x2048)) (hx := ⟨by decide, rfl⟩) (hy := ⟨by decide, rfl⟩)
  rw [hk, hr, ← c_main_call0_v0__main_call77_v0 hag hel]

theorem c_main_v187__main_v1284 : StableHlo.after Cert.KernelIdeal.Hand.KOps (Cert.KernelIdeal.Hand.Wl (F := Ideal) m ρ c) (Proc.devRef .tc Cert.KernelIdeal.main_v187) = StableHlo.after (Cert.ReferenceIdeal.Hand.ops (F := Ideal)) (StableHlo.launchContents m' c) (Proc.devRef .tc Cert.ReferenceIdeal.main_v1284) := by
  have hk := StableHlo.Ascending.eq_ternary Cert.KernelIdeal.Hand.KOps_asc (Cert.KernelIdeal.Hand.Wl m ρ c) (Cert.KernelIdeal.Hand.mem_KOps_st6 (Cert.KernelIdeal.Hand.mem_st_6_1 (List.getElem_mem (l := Cert.KernelIdeal.GenP.hostOps6_1 (F := Ideal)) (n := 2) (by decide)))) rfl rfl rfl rfl (by decide) (by decide) (by decide) (c := Cert.KernelIdeal.main_v186) (a := Cert.KernelIdeal.main_v176) (b := Cert.KernelIdeal.main_call0_v1) (y := Cert.KernelIdeal.main_v187) (f := (select : (⟨Cert.KernelIdeal.S2048x2048, .i1⟩ : BufTy).Contents (Elt Ideal) → (⟨Cert.KernelIdeal.S2048x2048, .f32⟩ : BufTy).Contents (Elt Ideal) → (⟨Cert.KernelIdeal.S2048x2048, .f32⟩ : BufTy).Contents (Elt Ideal) → (⟨Cert.KernelIdeal.S2048x2048, .f32⟩ : BufTy).Contents (Elt Ideal))) (hc := ⟨by decide, rfl⟩) (ha := ⟨by decide, rfl⟩) (hb := ⟨by decide, rfl⟩) (hy := ⟨by decide, rfl⟩)
  have hr := StableHlo.Ascending.eq_ternary (Cert.ReferenceIdeal.Hand.ops_asc (F := Ideal)) (StableHlo.launchContents m' c) (Cert.ReferenceIdeal.Hand.mem_ops_part25 (List.getElem_mem (l := Cert.ReferenceIdeal.Hand.ops_part25 (F := Ideal)) (n := 60) (by decide))) rfl rfl rfl rfl (by decide) (by decide) (by decide) (c := Cert.ReferenceIdeal.main_v1283) (a := Cert.ReferenceIdeal.main_v1273) (b := Cert.ReferenceIdeal.main_call56_v1) (y := Cert.ReferenceIdeal.main_v1284) (f := (select : (⟨Cert.ReferenceIdeal.S2048x2048, .i1⟩ : BufTy).Contents (Elt Ideal) → (⟨Cert.ReferenceIdeal.S2048x2048, .f32⟩ : BufTy).Contents (Elt Ideal) → (⟨Cert.ReferenceIdeal.S2048x2048, .f32⟩ : BufTy).Contents (Elt Ideal) → (⟨Cert.ReferenceIdeal.S2048x2048, .f32⟩ : BufTy).Contents (Elt Ideal))) (hc := ⟨by decide, rfl⟩) (ha := ⟨by decide, rfl⟩) (hb := ⟨by decide, rfl⟩) (hy := ⟨by decide, rfl⟩)
  rw [hk, hr, ← c_main_v186__main_v1283 hag hel, ← c_main_v176__main_v1273 hag hel, ← c_main_call0_v1__main_call56_v1 hag hel]

theorem c_main_v187__main_v1408 : StableHlo.after Cert.KernelIdeal.Hand.KOps (Cert.KernelIdeal.Hand.Wl (F := Ideal) m ρ c) (Proc.devRef .tc Cert.KernelIdeal.main_v187) = StableHlo.after (Cert.ReferenceIdeal.Hand.ops (F := Ideal)) (StableHlo.launchContents m' c) (Proc.devRef .tc Cert.ReferenceIdeal.main_v1408) := by
  have hk := StableHlo.Ascending.eq_ternary Cert.KernelIdeal.Hand.KOps_asc (Cert.KernelIdeal.Hand.Wl m ρ c) (Cert.KernelIdeal.Hand.mem_KOps_st6 (Cert.KernelIdeal.Hand.mem_st_6_1 (List.getElem_mem (l := Cert.KernelIdeal.GenP.hostOps6_1 (F := Ideal)) (n := 2) (by decide)))) rfl rfl rfl rfl (by decide) (by decide) (by decide) (c := Cert.KernelIdeal.main_v186) (a := Cert.KernelIdeal.main_v176) (b := Cert.KernelIdeal.main_call0_v1) (y := Cert.KernelIdeal.main_v187) (f := (select : (⟨Cert.KernelIdeal.S2048x2048, .i1⟩ : BufTy).Contents (Elt Ideal) → (⟨Cert.KernelIdeal.S2048x2048, .f32⟩ : BufTy).Contents (Elt Ideal) → (⟨Cert.KernelIdeal.S2048x2048, .f32⟩ : BufTy).Contents (Elt Ideal) → (⟨Cert.KernelIdeal.S2048x2048, .f32⟩ : BufTy).Contents (Elt Ideal))) (hc := ⟨by decide, rfl⟩) (ha := ⟨by decide, rfl⟩) (hb := ⟨by decide, rfl⟩) (hy := ⟨by decide, rfl⟩)
  have hr := StableHlo.Ascending.eq_ternary (Cert.ReferenceIdeal.Hand.ops_asc (F := Ideal)) (StableHlo.launchContents m' c) (Cert.ReferenceIdeal.Hand.mem_ops_part28 (List.getElem_mem (l := Cert.ReferenceIdeal.Hand.ops_part28 (F := Ideal)) (n := 32) (by decide))) rfl rfl rfl rfl (by decide) (by decide) (by decide) (c := Cert.ReferenceIdeal.main_v1407) (a := Cert.ReferenceIdeal.main_v1397) (b := Cert.ReferenceIdeal.main_call63_v1) (y := Cert.ReferenceIdeal.main_v1408) (f := (select : (⟨Cert.ReferenceIdeal.S2048x2048, .i1⟩ : BufTy).Contents (Elt Ideal) → (⟨Cert.ReferenceIdeal.S2048x2048, .f32⟩ : BufTy).Contents (Elt Ideal) → (⟨Cert.ReferenceIdeal.S2048x2048, .f32⟩ : BufTy).Contents (Elt Ideal) → (⟨Cert.ReferenceIdeal.S2048x2048, .f32⟩ : BufTy).Contents (Elt Ideal))) (hc := ⟨by decide, rfl⟩) (ha := ⟨by decide, rfl⟩) (hb := ⟨by decide, rfl⟩) (hy := ⟨by decide, rfl⟩)
  rw [hk, hr, ← c_main_v186__main_v1407 hag hel, ← c_main_v176__main_v1397 hag hel, ← c_main_call0_v1__main_call63_v1 hag hel]

theorem c_main_v187__main_v1532 : StableHlo.after Cert.KernelIdeal.Hand.KOps (Cert.KernelIdeal.Hand.Wl (F := Ideal) m ρ c) (Proc.devRef .tc Cert.KernelIdeal.main_v187) = StableHlo.after (Cert.ReferenceIdeal.Hand.ops (F := Ideal)) (StableHlo.launchContents m' c) (Proc.devRef .tc Cert.ReferenceIdeal.main_v1532) := by
  have hk := StableHlo.Ascending.eq_ternary Cert.KernelIdeal.Hand.KOps_asc (Cert.KernelIdeal.Hand.Wl m ρ c) (Cert.KernelIdeal.Hand.mem_KOps_st6 (Cert.KernelIdeal.Hand.mem_st_6_1 (List.getElem_mem (l := Cert.KernelIdeal.GenP.hostOps6_1 (F := Ideal)) (n := 2) (by decide)))) rfl rfl rfl rfl (by decide) (by decide) (by decide) (c := Cert.KernelIdeal.main_v186) (a := Cert.KernelIdeal.main_v176) (b := Cert.KernelIdeal.main_call0_v1) (y := Cert.KernelIdeal.main_v187) (f := (select : (⟨Cert.KernelIdeal.S2048x2048, .i1⟩ : BufTy).Contents (Elt Ideal) → (⟨Cert.KernelIdeal.S2048x2048, .f32⟩ : BufTy).Contents (Elt Ideal) → (⟨Cert.KernelIdeal.S2048x2048, .f32⟩ : BufTy).Contents (Elt Ideal) → (⟨Cert.KernelIdeal.S2048x2048, .f32⟩ : BufTy).Contents (Elt Ideal))) (hc := ⟨by decide, rfl⟩) (ha := ⟨by decide, rfl⟩) (hb := ⟨by decide, rfl⟩) (hy := ⟨by decide, rfl⟩)
  have hr := StableHlo.Ascending.eq_ternary (Cert.ReferenceIdeal.Hand.ops_asc (F := Ideal)) (StableHlo.launchContents m' c) (Cert.ReferenceIdeal.Hand.mem_ops_part31 (List.getElem_mem (l := Cert.ReferenceIdeal.Hand.ops_part31 (F := Ideal)) (n := 4) (by decide))) rfl rfl rfl rfl (by decide) (by decide) (by decide) (c := Cert.ReferenceIdeal.main_v1531) (a := Cert.ReferenceIdeal.main_v1521) (b := Cert.ReferenceIdeal.main_call70_v1) (y := Cert.ReferenceIdeal.main_v1532) (f := (select : (⟨Cert.ReferenceIdeal.S2048x2048, .i1⟩ : BufTy).Contents (Elt Ideal) → (⟨Cert.ReferenceIdeal.S2048x2048, .f32⟩ : BufTy).Contents (Elt Ideal) → (⟨Cert.ReferenceIdeal.S2048x2048, .f32⟩ : BufTy).Contents (Elt Ideal) → (⟨Cert.ReferenceIdeal.S2048x2048, .f32⟩ : BufTy).Contents (Elt Ideal))) (hc := ⟨by decide, rfl⟩) (ha := ⟨by decide, rfl⟩) (hb := ⟨by decide, rfl⟩) (hy := ⟨by decide, rfl⟩)
  rw [hk, hr, ← c_main_v186__main_v1531 hag hel, ← c_main_v176__main_v1521 hag hel, ← c_main_call0_v1__main_call70_v1 hag hel]

theorem c_main_v187__main_v1656 : StableHlo.after Cert.KernelIdeal.Hand.KOps (Cert.KernelIdeal.Hand.Wl (F := Ideal) m ρ c) (Proc.devRef .tc Cert.KernelIdeal.main_v187) = StableHlo.after (Cert.ReferenceIdeal.Hand.ops (F := Ideal)) (StableHlo.launchContents m' c) (Proc.devRef .tc Cert.ReferenceIdeal.main_v1656) := by
  have hk := StableHlo.Ascending.eq_ternary Cert.KernelIdeal.Hand.KOps_asc (Cert.KernelIdeal.Hand.Wl m ρ c) (Cert.KernelIdeal.Hand.mem_KOps_st6 (Cert.KernelIdeal.Hand.mem_st_6_1 (List.getElem_mem (l := Cert.KernelIdeal.GenP.hostOps6_1 (F := Ideal)) (n := 2) (by decide)))) rfl rfl rfl rfl (by decide) (by decide) (by decide) (c := Cert.KernelIdeal.main_v186) (a := Cert.KernelIdeal.main_v176) (b := Cert.KernelIdeal.main_call0_v1) (y := Cert.KernelIdeal.main_v187) (f := (select : (⟨Cert.KernelIdeal.S2048x2048, .i1⟩ : BufTy).Contents (Elt Ideal) → (⟨Cert.KernelIdeal.S2048x2048, .f32⟩ : BufTy).Contents (Elt Ideal) → (⟨Cert.KernelIdeal.S2048x2048, .f32⟩ : BufTy).Contents (Elt Ideal) → (⟨Cert.KernelIdeal.S2048x2048, .f32⟩ : BufTy).Contents (Elt Ideal))) (hc := ⟨by decide, rfl⟩) (ha := ⟨by decide, rfl⟩) (hb := ⟨by decide, rfl⟩) (hy := ⟨by decide, rfl⟩)
  have hr := StableHlo.Ascending.eq_ternary (Cert.ReferenceIdeal.Hand.ops_asc (F := Ideal)) (StableHlo.launchContents m' c) (Cert.ReferenceIdeal.Hand.mem_ops_part33 (List.getElem_mem (l := Cert.ReferenceIdeal.Hand.ops_part33 (F := Ideal)) (n := 50) (by decide))) rfl rfl rfl rfl (by decide) (by decide) (by decide) (c := Cert.ReferenceIdeal.main_v1655) (a := Cert.ReferenceIdeal.main_v1645) (b := Cert.ReferenceIdeal.main_call77_v1) (y := Cert.ReferenceIdeal.main_v1656) (f := (select : (⟨Cert.ReferenceIdeal.S2048x2048, .i1⟩ : BufTy).Contents (Elt Ideal) → (⟨Cert.ReferenceIdeal.S2048x2048, .f32⟩ : BufTy).Contents (Elt Ideal) → (⟨Cert.ReferenceIdeal.S2048x2048, .f32⟩ : BufTy).Contents (Elt Ideal) → (⟨Cert.ReferenceIdeal.S2048x2048, .f32⟩ : BufTy).Contents (Elt Ideal))) (hc := ⟨by decide, rfl⟩) (ha := ⟨by decide, rfl⟩) (hb := ⟨by decide, rfl⟩) (hy := ⟨by decide, rfl⟩)
  rw [hk, hr, ← c_main_v186__main_v1655 hag hel, ← c_main_v176__main_v1645 hag hel, ← c_main_call0_v1__main_call77_v1 hag hel]

theorem c_main_v188__main_v1285 : StableHlo.after Cert.KernelIdeal.Hand.KOps (Cert.KernelIdeal.Hand.Wl (F := Ideal) m ρ c) (Proc.devRef .tc Cert.KernelIdeal.main_v188) = StableHlo.after (Cert.ReferenceIdeal.Hand.ops (F := Ideal)) (StableHlo.launchContents m' c) (Proc.devRef .tc Cert.ReferenceIdeal.main_v1285) := by
  have hk := StableHlo.Ascending.eq_binary Cert.KernelIdeal.Hand.KOps_asc (Cert.KernelIdeal.Hand.Wl m ρ c) (Cert.KernelIdeal.Hand.mem_KOps_st6 (Cert.KernelIdeal.Hand.mem_st_6_2 (List.getElem_mem (l := Cert.KernelIdeal.GenP.hostOps6_2 (F := Ideal)) (n := 0) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part25 (List.getElem_mem (l := Cert.ReferenceIdeal.Hand.ops_part25 (F := Ideal)) (n := 61) (by decide))) rfl rfl rfl (by decide) (by decide) (ha := ⟨by decide, rfl⟩) (hb := ⟨by decide, rfl⟩) (hy := ⟨by decide, rfl⟩)
  rw [hk, hr, ← c_main_v187__main_v1284 hag hel, ← c_main_v184__main_v1281 hag hel]

theorem c_main_v188__main_v1409 : StableHlo.after Cert.KernelIdeal.Hand.KOps (Cert.KernelIdeal.Hand.Wl (F := Ideal) m ρ c) (Proc.devRef .tc Cert.KernelIdeal.main_v188) = StableHlo.after (Cert.ReferenceIdeal.Hand.ops (F := Ideal)) (StableHlo.launchContents m' c) (Proc.devRef .tc Cert.ReferenceIdeal.main_v1409) := by
  have hk := StableHlo.Ascending.eq_binary Cert.KernelIdeal.Hand.KOps_asc (Cert.KernelIdeal.Hand.Wl m ρ c) (Cert.KernelIdeal.Hand.mem_KOps_st6 (Cert.KernelIdeal.Hand.mem_st_6_2 (List.getElem_mem (l := Cert.KernelIdeal.GenP.hostOps6_2 (F := Ideal)) (n := 0) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part28 (List.getElem_mem (l := Cert.ReferenceIdeal.Hand.ops_part28 (F := Ideal)) (n := 33) (by decide))) rfl rfl rfl (by decide) (by decide) (ha := ⟨by decide, rfl⟩) (hb := ⟨by decide, rfl⟩) (hy := ⟨by decide, rfl⟩)
  rw [hk, hr, ← c_main_v187__main_v1408 hag hel, ← c_main_v184__main_v1405 hag hel]

theorem c_main_v188__main_v1533 : StableHlo.after Cert.KernelIdeal.Hand.KOps (Cert.KernelIdeal.Hand.Wl (F := Ideal) m ρ c) (Proc.devRef .tc Cert.KernelIdeal.main_v188) = StableHlo.after (Cert.ReferenceIdeal.Hand.ops (F := Ideal)) (StableHlo.launchContents m' c) (Proc.devRef .tc Cert.ReferenceIdeal.main_v1533) := by
  have hk := StableHlo.Ascending.eq_binary Cert.KernelIdeal.Hand.KOps_asc (Cert.KernelIdeal.Hand.Wl m ρ c) (Cert.KernelIdeal.Hand.mem_KOps_st6 (Cert.KernelIdeal.Hand.mem_st_6_2 (List.getElem_mem (l := Cert.KernelIdeal.GenP.hostOps6_2 (F := Ideal)) (n := 0) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part31 (List.getElem_mem (l := Cert.ReferenceIdeal.Hand.ops_part31 (F := Ideal)) (n := 5) (by decide))) rfl rfl rfl (by decide) (by decide) (ha := ⟨by decide, rfl⟩) (hb := ⟨by decide, rfl⟩) (hy := ⟨by decide, rfl⟩)
  rw [hk, hr, ← c_main_v187__main_v1532 hag hel, ← c_main_v184__main_v1529 hag hel]

theorem c_main_v188__main_v1657 : StableHlo.after Cert.KernelIdeal.Hand.KOps (Cert.KernelIdeal.Hand.Wl (F := Ideal) m ρ c) (Proc.devRef .tc Cert.KernelIdeal.main_v188) = StableHlo.after (Cert.ReferenceIdeal.Hand.ops (F := Ideal)) (StableHlo.launchContents m' c) (Proc.devRef .tc Cert.ReferenceIdeal.main_v1657) := by
  have hk := StableHlo.Ascending.eq_binary Cert.KernelIdeal.Hand.KOps_asc (Cert.KernelIdeal.Hand.Wl m ρ c) (Cert.KernelIdeal.Hand.mem_KOps_st6 (Cert.KernelIdeal.Hand.mem_st_6_2 (List.getElem_mem (l := Cert.KernelIdeal.GenP.hostOps6_2 (F := Ideal)) (n := 0) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part33 (List.getElem_mem (l := Cert.ReferenceIdeal.Hand.ops_part33 (F := Ideal)) (n := 51) (by decide))) rfl rfl rfl (by decide) (by decide) (ha := ⟨by decide, rfl⟩) (hb := ⟨by decide, rfl⟩) (hy := ⟨by decide, rfl⟩)
  rw [hk, hr, ← c_main_v187__main_v1656 hag hel, ← c_main_v184__main_v1653 hag hel]

theorem c_main_v189__main_v1287 : StableHlo.after Cert.KernelIdeal.Hand.KOps (Cert.KernelIdeal.Hand.Wl (F := Ideal) m ρ c) (Proc.devRef .tc Cert.KernelIdeal.main_v189) = StableHlo.after (Cert.ReferenceIdeal.Hand.ops (F := Ideal)) (StableHlo.launchContents m' c) (Proc.devRef .tc Cert.ReferenceIdeal.main_v1287) := by
  have hk := StableHlo.Ascending.eq_binary Cert.KernelIdeal.Hand.KOps_asc (Cert.KernelIdeal.Hand.Wl m ρ c) Cert.KernelIdeal.Hand.mem_KOps_reg6 rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part26 (List.getElem_mem (l := Cert.ReferenceIdeal.Hand.ops_part26 (F := Ideal)) (n := 1) (by decide))) rfl rfl rfl (by decide) (by decide) (ha := ⟨by decide, rfl⟩) (hb := ⟨by decide, rfl⟩) (hy := ⟨by decide, rfl⟩)
  rw [hk, hr, ← c_main_v24__main_v122 hag hel, ← c_main_v24__main_v1286 hag hel]
  exact Cert.KernelIdeal.Hand.dot_eq6 _ _

theorem c_main_v189__main_v1411 : StableHlo.after Cert.KernelIdeal.Hand.KOps (Cert.KernelIdeal.Hand.Wl (F := Ideal) m ρ c) (Proc.devRef .tc Cert.KernelIdeal.main_v189) = StableHlo.after (Cert.ReferenceIdeal.Hand.ops (F := Ideal)) (StableHlo.launchContents m' c) (Proc.devRef .tc Cert.ReferenceIdeal.main_v1411) := by
  have hk := StableHlo.Ascending.eq_binary Cert.KernelIdeal.Hand.KOps_asc (Cert.KernelIdeal.Hand.Wl m ρ c) Cert.KernelIdeal.Hand.mem_KOps_reg6 rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part28 (List.getElem_mem (l := Cert.ReferenceIdeal.Hand.ops_part28 (F := Ideal)) (n := 35) (by decide))) rfl rfl rfl (by decide) (by decide) (ha := ⟨by decide, rfl⟩) (hb := ⟨by decide, rfl⟩) (hy := ⟨by decide, rfl⟩)
  rw [hk, hr, ← c_main_v24__main_v122 hag hel, ← c_main_v24__main_v1410 hag hel]
  exact Cert.KernelIdeal.Hand.dot_eq6 _ _

theorem c_main_v189__main_v1535 : StableHlo.after Cert.KernelIdeal.Hand.KOps (Cert.KernelIdeal.Hand.Wl (F := Ideal) m ρ c) (Proc.devRef .tc Cert.KernelIdeal.main_v189) = StableHlo.after (Cert.ReferenceIdeal.Hand.ops (F := Ideal)) (StableHlo.launchContents m' c) (Proc.devRef .tc Cert.ReferenceIdeal.main_v1535) := by
  have hk := StableHlo.Ascending.eq_binary Cert.KernelIdeal.Hand.KOps_asc (Cert.KernelIdeal.Hand.Wl m ρ c) Cert.KernelIdeal.Hand.mem_KOps_reg6 rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part31 (List.getElem_mem (l := Cert.ReferenceIdeal.Hand.ops_part31 (F := Ideal)) (n := 7) (by decide))) rfl rfl rfl (by decide) (by decide) (ha := ⟨by decide, rfl⟩) (hb := ⟨by decide, rfl⟩) (hy := ⟨by decide, rfl⟩)
  rw [hk, hr, ← c_main_v24__main_v122 hag hel, ← c_main_v24__main_v1534 hag hel]
  exact Cert.KernelIdeal.Hand.dot_eq6 _ _

theorem c_main_v189__main_v1659 : StableHlo.after Cert.KernelIdeal.Hand.KOps (Cert.KernelIdeal.Hand.Wl (F := Ideal) m ρ c) (Proc.devRef .tc Cert.KernelIdeal.main_v189) = StableHlo.after (Cert.ReferenceIdeal.Hand.ops (F := Ideal)) (StableHlo.launchContents m' c) (Proc.devRef .tc Cert.ReferenceIdeal.main_v1659) := by
  have hk := StableHlo.Ascending.eq_binary Cert.KernelIdeal.Hand.KOps_asc (Cert.KernelIdeal.Hand.Wl m ρ c) Cert.KernelIdeal.Hand.mem_KOps_reg6 rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part33 (List.getElem_mem (l := Cert.ReferenceIdeal.Hand.ops_part33 (F := Ideal)) (n := 53) (by decide))) rfl rfl rfl (by decide) (by decide) (ha := ⟨by decide, rfl⟩) (hb := ⟨by decide, rfl⟩) (hy := ⟨by decide, rfl⟩)
  rw [hk, hr, ← c_main_v24__main_v122 hag hel, ← c_main_v24__main_v1658 hag hel]
  exact Cert.KernelIdeal.Hand.dot_eq6 _ _

theorem c_main_cst_28__main_cst_272 : StableHlo.after Cert.KernelIdeal.Hand.KOps (Cert.KernelIdeal.Hand.Wl (F := Ideal) m ρ c) (Proc.devRef .tc Cert.KernelIdeal.main_cst_28) = StableHlo.after (Cert.ReferenceIdeal.Hand.ops (F := Ideal)) (StableHlo.launchContents m' c) (Proc.devRef .tc Cert.ReferenceIdeal.main_cst_272) := by
  have hk := StableHlo.Ascending.eq_nullary Cert.KernelIdeal.Hand.KOps_asc (Cert.KernelIdeal.Hand.Wl m ρ c) (Cert.KernelIdeal.Hand.mem_KOps_st7 (Cert.KernelIdeal.Hand.mem_st_7 (List.getElem_mem (l := Cert.KernelIdeal.GenP.hostOps7 (F := Ideal)) (n := 0) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part26 (List.getElem_mem (l := Cert.ReferenceIdeal.Hand.ops_part26 (F := Ideal)) (n := 2) (by decide))) rfl (hy := ⟨by decide, rfl⟩)
  rw [hk, hr]

theorem c_main_cst_28__main_cst_300 : StableHlo.after Cert.KernelIdeal.Hand.KOps (Cert.KernelIdeal.Hand.Wl (F := Ideal) m ρ c) (Proc.devRef .tc Cert.KernelIdeal.main_cst_28) = StableHlo.after (Cert.ReferenceIdeal.Hand.ops (F := Ideal)) (StableHlo.launchContents m' c) (Proc.devRef .tc Cert.ReferenceIdeal.main_cst_300) := by
  have hk := StableHlo.Ascending.eq_nullary Cert.KernelIdeal.Hand.KOps_asc (Cert.KernelIdeal.Hand.Wl m ρ c) (Cert.KernelIdeal.Hand.mem_KOps_st7 (Cert.KernelIdeal.Hand.mem_st_7 (List.getElem_mem (l := Cert.KernelIdeal.GenP.hostOps7 (F := Ideal)) (n := 0) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part28 (List.getElem_mem (l := Cert.ReferenceIdeal.Hand.ops_part28 (F := Ideal)) (n := 36) (by decide))) rfl (hy := ⟨by decide, rfl⟩)
  rw [hk, hr]

theorem c_main_cst_28__main_cst_328 : StableHlo.after Cert.KernelIdeal.Hand.KOps (Cert.KernelIdeal.Hand.Wl (F := Ideal) m ρ c) (Proc.devRef .tc Cert.KernelIdeal.main_cst_28) = StableHlo.after (Cert.ReferenceIdeal.Hand.ops (F := Ideal)) (StableHlo.launchContents m' c) (Proc.devRef .tc Cert.ReferenceIdeal.main_cst_328) := by
  have hk := StableHlo.Ascending.eq_nullary Cert.KernelIdeal.Hand.KOps_asc (Cert.KernelIdeal.Hand.Wl m ρ c) (Cert.KernelIdeal.Hand.mem_KOps_st7 (Cert.KernelIdeal.Hand.mem_st_7 (List.getElem_mem (l := Cert.KernelIdeal.GenP.hostOps7 (F := Ideal)) (n := 0) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part31 (List.getElem_mem (l := Cert.ReferenceIdeal.Hand.ops_part31 (F := Ideal)) (n := 8) (by decide))) rfl (hy := ⟨by decide, rfl⟩)
  rw [hk, hr]

theorem c_main_cst_28__main_cst_356 : StableHlo.after Cert.KernelIdeal.Hand.KOps (Cert.KernelIdeal.Hand.Wl (F := Ideal) m ρ c) (Proc.devRef .tc Cert.KernelIdeal.main_cst_28) = StableHlo.after (Cert.ReferenceIdeal.Hand.ops (F := Ideal)) (StableHlo.launchContents m' c) (Proc.devRef .tc Cert.ReferenceIdeal.main_cst_356) := by
  have hk := StableHlo.Ascending.eq_nullary Cert.KernelIdeal.Hand.KOps_asc (Cert.KernelIdeal.Hand.Wl m ρ c) (Cert.KernelIdeal.Hand.mem_KOps_st7 (Cert.KernelIdeal.Hand.mem_st_7 (List.getElem_mem (l := Cert.KernelIdeal.GenP.hostOps7 (F := Ideal)) (n := 0) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part33 (List.getElem_mem (l := Cert.ReferenceIdeal.Hand.ops_part33 (F := Ideal)) (n := 54) (by decide))) rfl (hy := ⟨by decide, rfl⟩)
  rw [hk, hr]

theorem c_main_v190__main_v1288 : StableHlo.after Cert.KernelIdeal.Hand.KOps (Cert.KernelIdeal.Hand.Wl (F := Ideal) m ρ c) (Proc.devRef .tc Cert.KernelIdeal.main_v190) = StableHlo.after (Cert.ReferenceIdeal.Hand.ops (F := Ideal)) (StableHlo.launchContents m' c) (Proc.devRef .tc Cert.ReferenceIdeal.main_v1288) := by
  have hk := StableHlo.Ascending.eq_unary Cert.KernelIdeal.Hand.KOps_asc (Cert.KernelIdeal.Hand.Wl m ρ c) (Cert.KernelIdeal.Hand.mem_KOps_st7 (Cert.KernelIdeal.Hand.mem_st_7 (List.getElem_mem (l := Cert.KernelIdeal.GenP.hostOps7 (F := Ideal)) (n := 1) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part26 (List.getElem_mem (l := Cert.ReferenceIdeal.Hand.ops_part26 (F := Ideal)) (n := 3) (by decide))) rfl rfl (by decide) (hx := ⟨by decide, rfl⟩) (hy := ⟨by decide, rfl⟩)
  rw [hk, hr, ← c_main_cst_28__main_cst_272 hag hel]

theorem c_main_v190__main_v1412 : StableHlo.after Cert.KernelIdeal.Hand.KOps (Cert.KernelIdeal.Hand.Wl (F := Ideal) m ρ c) (Proc.devRef .tc Cert.KernelIdeal.main_v190) = StableHlo.after (Cert.ReferenceIdeal.Hand.ops (F := Ideal)) (StableHlo.launchContents m' c) (Proc.devRef .tc Cert.ReferenceIdeal.main_v1412) := by
  have hk := StableHlo.Ascending.eq_unary Cert.KernelIdeal.Hand.KOps_asc (Cert.KernelIdeal.Hand.Wl m ρ c) (Cert.KernelIdeal.Hand.mem_KOps_st7 (Cert.KernelIdeal.Hand.mem_st_7 (List.getElem_mem (l := Cert.KernelIdeal.GenP.hostOps7 (F := Ideal)) (n := 1) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part28 (List.getElem_mem (l := Cert.ReferenceIdeal.Hand.ops_part28 (F := Ideal)) (n := 37) (by decide))) rfl rfl (by decide) (hx := ⟨by decide, rfl⟩) (hy := ⟨by decide, rfl⟩)
  rw [hk, hr, ← c_main_cst_28__main_cst_300 hag hel]

theorem c_main_v190__main_v1536 : StableHlo.after Cert.KernelIdeal.Hand.KOps (Cert.KernelIdeal.Hand.Wl (F := Ideal) m ρ c) (Proc.devRef .tc Cert.KernelIdeal.main_v190) = StableHlo.after (Cert.ReferenceIdeal.Hand.ops (F := Ideal)) (StableHlo.launchContents m' c) (Proc.devRef .tc Cert.ReferenceIdeal.main_v1536) := by
  have hk := StableHlo.Ascending.eq_unary Cert.KernelIdeal.Hand.KOps_asc (Cert.KernelIdeal.Hand.Wl m ρ c) (Cert.KernelIdeal.Hand.mem_KOps_st7 (Cert.KernelIdeal.Hand.mem_st_7 (List.getElem_mem (l := Cert.KernelIdeal.GenP.hostOps7 (F := Ideal)) (n := 1) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part31 (List.getElem_mem (l := Cert.ReferenceIdeal.Hand.ops_part31 (F := Ideal)) (n := 9) (by decide))) rfl rfl (by decide) (hx := ⟨by decide, rfl⟩) (hy := ⟨by decide, rfl⟩)
  rw [hk, hr, ← c_main_cst_28__main_cst_328 hag hel]

theorem c_main_v190__main_v1660 : StableHlo.after Cert.KernelIdeal.Hand.KOps (Cert.KernelIdeal.Hand.Wl (F := Ideal) m ρ c) (Proc.devRef .tc Cert.KernelIdeal.main_v190) = StableHlo.after (Cert.ReferenceIdeal.Hand.ops (F := Ideal)) (StableHlo.launchContents m' c) (Proc.devRef .tc Cert.ReferenceIdeal.main_v1660) := by
  have hk := StableHlo.Ascending.eq_unary Cert.KernelIdeal.Hand.KOps_asc (Cert.KernelIdeal.Hand.Wl m ρ c) (Cert.KernelIdeal.Hand.mem_KOps_st7 (Cert.KernelIdeal.Hand.mem_st_7 (List.getElem_mem (l := Cert.KernelIdeal.GenP.hostOps7 (F := Ideal)) (n := 1) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part33 (List.getElem_mem (l := Cert.ReferenceIdeal.Hand.ops_part33 (F := Ideal)) (n := 55) (by decide))) rfl rfl (by decide) (hx := ⟨by decide, rfl⟩) (hy := ⟨by decide, rfl⟩)
  rw [hk, hr, ← c_main_cst_28__main_cst_356 hag hel]

theorem c_main_v191__main_v1289 : StableHlo.after Cert.KernelIdeal.Hand.KOps (Cert.KernelIdeal.Hand.Wl (F := Ideal) m ρ c) (Proc.devRef .tc Cert.KernelIdeal.main_v191) = StableHlo.after (Cert.ReferenceIdeal.Hand.ops (F := Ideal)) (StableHlo.launchContents m' c) (Proc.devRef .tc Cert.ReferenceIdeal.main_v1289) := by
  have hk := StableHlo.Ascending.eq_binary Cert.KernelIdeal.Hand.KOps_asc (Cert.KernelIdeal.Hand.Wl m ρ c) (Cert.KernelIdeal.Hand.mem_KOps_st7 (Cert.KernelIdeal.Hand.mem_st_7 (List.getElem_mem (l := Cert.KernelIdeal.GenP.hostOps7 (F := Ideal)) (n := 2) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part26 (List.getElem_mem (l := Cert.ReferenceIdeal.Hand.ops_part26 (F := Ideal)) (n := 4) (by decide))) rfl rfl rfl (by decide) (by decide) (ha := ⟨by decide, rfl⟩) (hb := ⟨by decide, rfl⟩) (hy := ⟨by decide, rfl⟩)
  rw [hk, hr, ← c_main_v189__main_v1287 hag hel, ← c_main_v190__main_v1288 hag hel]

theorem c_main_v191__main_v1413 : StableHlo.after Cert.KernelIdeal.Hand.KOps (Cert.KernelIdeal.Hand.Wl (F := Ideal) m ρ c) (Proc.devRef .tc Cert.KernelIdeal.main_v191) = StableHlo.after (Cert.ReferenceIdeal.Hand.ops (F := Ideal)) (StableHlo.launchContents m' c) (Proc.devRef .tc Cert.ReferenceIdeal.main_v1413) := by
  have hk := StableHlo.Ascending.eq_binary Cert.KernelIdeal.Hand.KOps_asc (Cert.KernelIdeal.Hand.Wl m ρ c) (Cert.KernelIdeal.Hand.mem_KOps_st7 (Cert.KernelIdeal.Hand.mem_st_7 (List.getElem_mem (l := Cert.KernelIdeal.GenP.hostOps7 (F := Ideal)) (n := 2) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part28 (List.getElem_mem (l := Cert.ReferenceIdeal.Hand.ops_part28 (F := Ideal)) (n := 38) (by decide))) rfl rfl rfl (by decide) (by decide) (ha := ⟨by decide, rfl⟩) (hb := ⟨by decide, rfl⟩) (hy := ⟨by decide, rfl⟩)
  rw [hk, hr, ← c_main_v189__main_v1411 hag hel, ← c_main_v190__main_v1412 hag hel]

theorem c_main_v191__main_v1537 : StableHlo.after Cert.KernelIdeal.Hand.KOps (Cert.KernelIdeal.Hand.Wl (F := Ideal) m ρ c) (Proc.devRef .tc Cert.KernelIdeal.main_v191) = StableHlo.after (Cert.ReferenceIdeal.Hand.ops (F := Ideal)) (StableHlo.launchContents m' c) (Proc.devRef .tc Cert.ReferenceIdeal.main_v1537) := by
  have hk := StableHlo.Ascending.eq_binary Cert.KernelIdeal.Hand.KOps_asc (Cert.KernelIdeal.Hand.Wl m ρ c) (Cert.KernelIdeal.Hand.mem_KOps_st7 (Cert.KernelIdeal.Hand.mem_st_7 (List.getElem_mem (l := Cert.KernelIdeal.GenP.hostOps7 (F := Ideal)) (n := 2) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part31 (List.getElem_mem (l := Cert.ReferenceIdeal.Hand.ops_part31 (F := Ideal)) (n := 10) (by decide))) rfl rfl rfl (by decide) (by decide) (ha := ⟨by decide, rfl⟩) (hb := ⟨by decide, rfl⟩) (hy := ⟨by decide, rfl⟩)
  rw [hk, hr, ← c_main_v189__main_v1535 hag hel, ← c_main_v190__main_v1536 hag hel]

theorem c_main_v191__main_v1661 : StableHlo.after Cert.KernelIdeal.Hand.KOps (Cert.KernelIdeal.Hand.Wl (F := Ideal) m ρ c) (Proc.devRef .tc Cert.KernelIdeal.main_v191) = StableHlo.after (Cert.ReferenceIdeal.Hand.ops (F := Ideal)) (StableHlo.launchContents m' c) (Proc.devRef .tc Cert.ReferenceIdeal.main_v1661) := by
  have hk := StableHlo.Ascending.eq_binary Cert.KernelIdeal.Hand.KOps_asc (Cert.KernelIdeal.Hand.Wl m ρ c) (Cert.KernelIdeal.Hand.mem_KOps_st7 (Cert.KernelIdeal.Hand.mem_st_7 (List.getElem_mem (l := Cert.KernelIdeal.GenP.hostOps7 (F := Ideal)) (n := 2) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part33 (List.getElem_mem (l := Cert.ReferenceIdeal.Hand.ops_part33 (F := Ideal)) (n := 56) (by decide))) rfl rfl rfl (by decide) (by decide) (ha := ⟨by decide, rfl⟩) (hb := ⟨by decide, rfl⟩) (hy := ⟨by decide, rfl⟩)
  rw [hk, hr, ← c_main_v189__main_v1659 hag hel, ← c_main_v190__main_v1660 hag hel]

theorem c_main_v192__main_v1290 : StableHlo.after Cert.KernelIdeal.Hand.KOps (Cert.KernelIdeal.Hand.Wl (F := Ideal) m ρ c) (Proc.devRef .tc Cert.KernelIdeal.main_v192) = StableHlo.after (Cert.ReferenceIdeal.Hand.ops (F := Ideal)) (StableHlo.launchContents m' c) (Proc.devRef .tc Cert.ReferenceIdeal.main_v1290) := by
  have hk := StableHlo.Ascending.eq_unary Cert.KernelIdeal.Hand.KOps_asc (Cert.KernelIdeal.Hand.Wl m ρ c) (Cert.KernelIdeal.Hand.mem_KOps_st7 (Cert.KernelIdeal.Hand.mem_st_7 (List.getElem_mem (l := Cert.KernelIdeal.GenP.hostOps7 (F := Ideal)) (n := 3) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part26 (List.getElem_mem (l := Cert.ReferenceIdeal.Hand.ops_part26 (F := Ideal)) (n := 5) (by decide))) rfl rfl (by decide) (hx := ⟨by decide, rfl⟩) (hy := ⟨by decide, rfl⟩)
  rw [hk, hr, ← c_main_v191__main_v1289 hag hel]

theorem c_main_v192__main_v1414 : StableHlo.after Cert.KernelIdeal.Hand.KOps (Cert.KernelIdeal.Hand.Wl (F := Ideal) m ρ c) (Proc.devRef .tc Cert.KernelIdeal.main_v192) = StableHlo.after (Cert.ReferenceIdeal.Hand.ops (F := Ideal)) (StableHlo.launchContents m' c) (Proc.devRef .tc Cert.ReferenceIdeal.main_v1414) := by
  have hk := StableHlo.Ascending.eq_unary Cert.KernelIdeal.Hand.KOps_asc (Cert.KernelIdeal.Hand.Wl m ρ c) (Cert.KernelIdeal.Hand.mem_KOps_st7 (Cert.KernelIdeal.Hand.mem_st_7 (List.getElem_mem (l := Cert.KernelIdeal.GenP.hostOps7 (F := Ideal)) (n := 3) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part28 (List.getElem_mem (l := Cert.ReferenceIdeal.Hand.ops_part28 (F := Ideal)) (n := 39) (by decide))) rfl rfl (by decide) (hx := ⟨by decide, rfl⟩) (hy := ⟨by decide, rfl⟩)
  rw [hk, hr, ← c_main_v191__main_v1413 hag hel]

theorem c_main_v192__main_v1538 : StableHlo.after Cert.KernelIdeal.Hand.KOps (Cert.KernelIdeal.Hand.Wl (F := Ideal) m ρ c) (Proc.devRef .tc Cert.KernelIdeal.main_v192) = StableHlo.after (Cert.ReferenceIdeal.Hand.ops (F := Ideal)) (StableHlo.launchContents m' c) (Proc.devRef .tc Cert.ReferenceIdeal.main_v1538) := by
  have hk := StableHlo.Ascending.eq_unary Cert.KernelIdeal.Hand.KOps_asc (Cert.KernelIdeal.Hand.Wl m ρ c) (Cert.KernelIdeal.Hand.mem_KOps_st7 (Cert.KernelIdeal.Hand.mem_st_7 (List.getElem_mem (l := Cert.KernelIdeal.GenP.hostOps7 (F := Ideal)) (n := 3) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part31 (List.getElem_mem (l := Cert.ReferenceIdeal.Hand.ops_part31 (F := Ideal)) (n := 11) (by decide))) rfl rfl (by decide) (hx := ⟨by decide, rfl⟩) (hy := ⟨by decide, rfl⟩)
  rw [hk, hr, ← c_main_v191__main_v1537 hag hel]

theorem c_main_v192__main_v1662 : StableHlo.after Cert.KernelIdeal.Hand.KOps (Cert.KernelIdeal.Hand.Wl (F := Ideal) m ρ c) (Proc.devRef .tc Cert.KernelIdeal.main_v192) = StableHlo.after (Cert.ReferenceIdeal.Hand.ops (F := Ideal)) (StableHlo.launchContents m' c) (Proc.devRef .tc Cert.ReferenceIdeal.main_v1662) := by
  have hk := StableHlo.Ascending.eq_unary Cert.KernelIdeal.Hand.KOps_asc (Cert.KernelIdeal.Hand.Wl m ρ c) (Cert.KernelIdeal.Hand.mem_KOps_st7 (Cert.KernelIdeal.Hand.mem_st_7 (List.getElem_mem (l := Cert.KernelIdeal.GenP.hostOps7 (F := Ideal)) (n := 3) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part33 (List.getElem_mem (l := Cert.ReferenceIdeal.Hand.ops_part33 (F := Ideal)) (n := 57) (by decide))) rfl rfl (by decide) (hx := ⟨by decide, rfl⟩) (hy := ⟨by decide, rfl⟩)
  rw [hk, hr, ← c_main_v191__main_v1661 hag hel]

theorem c_main_v193__main_v1291 : StableHlo.after Cert.KernelIdeal.Hand.KOps (Cert.KernelIdeal.Hand.Wl (F := Ideal) m ρ c) (Proc.devRef .tc Cert.KernelIdeal.main_v193) = StableHlo.after (Cert.ReferenceIdeal.Hand.ops (F := Ideal)) (StableHlo.launchContents m' c) (Proc.devRef .tc Cert.ReferenceIdeal.main_v1291) := by
  have hk := StableHlo.Ascending.eq_binary Cert.KernelIdeal.Hand.KOps_asc (Cert.KernelIdeal.Hand.Wl m ρ c) (Cert.KernelIdeal.Hand.mem_KOps_st7 (Cert.KernelIdeal.Hand.mem_st_7 (List.getElem_mem (l := Cert.KernelIdeal.GenP.hostOps7 (F := Ideal)) (n := 4) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part26 (List.getElem_mem (l := Cert.ReferenceIdeal.Hand.ops_part26 (F := Ideal)) (n := 6) (by decide))) rfl rfl rfl (by decide) (by decide) (ha := ⟨by decide, rfl⟩) (hb := ⟨by decide, rfl⟩) (hy := ⟨by decide, rfl⟩)
  rw [hk, hr, ← c_main_v192__main_v1290 hag hel, ← c_main_v184__main_v1281 hag hel]

theorem c_main_v193__main_v1415 : StableHlo.after Cert.KernelIdeal.Hand.KOps (Cert.KernelIdeal.Hand.Wl (F := Ideal) m ρ c) (Proc.devRef .tc Cert.KernelIdeal.main_v193) = StableHlo.after (Cert.ReferenceIdeal.Hand.ops (F := Ideal)) (StableHlo.launchContents m' c) (Proc.devRef .tc Cert.ReferenceIdeal.main_v1415) := by
  have hk := StableHlo.Ascending.eq_binary Cert.KernelIdeal.Hand.KOps_asc (Cert.KernelIdeal.Hand.Wl m ρ c) (Cert.KernelIdeal.Hand.mem_KOps_st7 (Cert.KernelIdeal.Hand.mem_st_7 (List.getElem_mem (l := Cert.KernelIdeal.GenP.hostOps7 (F := Ideal)) (n := 4) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part28 (List.getElem_mem (l := Cert.ReferenceIdeal.Hand.ops_part28 (F := Ideal)) (n := 40) (by decide))) rfl rfl rfl (by decide) (by decide) (ha := ⟨by decide, rfl⟩) (hb := ⟨by decide, rfl⟩) (hy := ⟨by decide, rfl⟩)
  rw [hk, hr, ← c_main_v192__main_v1414 hag hel, ← c_main_v184__main_v1405 hag hel]

theorem c_main_v193__main_v1539 : StableHlo.after Cert.KernelIdeal.Hand.KOps (Cert.KernelIdeal.Hand.Wl (F := Ideal) m ρ c) (Proc.devRef .tc Cert.KernelIdeal.main_v193) = StableHlo.after (Cert.ReferenceIdeal.Hand.ops (F := Ideal)) (StableHlo.launchContents m' c) (Proc.devRef .tc Cert.ReferenceIdeal.main_v1539) := by
  have hk := StableHlo.Ascending.eq_binary Cert.KernelIdeal.Hand.KOps_asc (Cert.KernelIdeal.Hand.Wl m ρ c) (Cert.KernelIdeal.Hand.mem_KOps_st7 (Cert.KernelIdeal.Hand.mem_st_7 (List.getElem_mem (l := Cert.KernelIdeal.GenP.hostOps7 (F := Ideal)) (n := 4) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part31 (List.getElem_mem (l := Cert.ReferenceIdeal.Hand.ops_part31 (F := Ideal)) (n := 12) (by decide))) rfl rfl rfl (by decide) (by decide) (ha := ⟨by decide, rfl⟩) (hb := ⟨by decide, rfl⟩) (hy := ⟨by decide, rfl⟩)
  rw [hk, hr, ← c_main_v192__main_v1538 hag hel, ← c_main_v184__main_v1529 hag hel]

theorem c_main_v193__main_v1663 : StableHlo.after Cert.KernelIdeal.Hand.KOps (Cert.KernelIdeal.Hand.Wl (F := Ideal) m ρ c) (Proc.devRef .tc Cert.KernelIdeal.main_v193) = StableHlo.after (Cert.ReferenceIdeal.Hand.ops (F := Ideal)) (StableHlo.launchContents m' c) (Proc.devRef .tc Cert.ReferenceIdeal.main_v1663) := by
  have hk := StableHlo.Ascending.eq_binary Cert.KernelIdeal.Hand.KOps_asc (Cert.KernelIdeal.Hand.Wl m ρ c) (Cert.KernelIdeal.Hand.mem_KOps_st7 (Cert.KernelIdeal.Hand.mem_st_7 (List.getElem_mem (l := Cert.KernelIdeal.GenP.hostOps7 (F := Ideal)) (n := 4) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part33 (List.getElem_mem (l := Cert.ReferenceIdeal.Hand.ops_part33 (F := Ideal)) (n := 58) (by decide))) rfl rfl rfl (by decide) (by decide) (ha := ⟨by decide, rfl⟩) (hb := ⟨by decide, rfl⟩) (hy := ⟨by decide, rfl⟩)
  rw [hk, hr, ← c_main_v192__main_v1662 hag hel, ← c_main_v184__main_v1653 hag hel]

theorem c_main_v194__main_v1292 : StableHlo.after Cert.KernelIdeal.Hand.KOps (Cert.KernelIdeal.Hand.Wl (F := Ideal) m ρ c) (Proc.devRef .tc Cert.KernelIdeal.main_v194) = StableHlo.after (Cert.ReferenceIdeal.Hand.ops (F := Ideal)) (StableHlo.launchContents m' c) (Proc.devRef .tc Cert.ReferenceIdeal.main_v1292) := by
  have hk := StableHlo.Ascending.eq_binary Cert.KernelIdeal.Hand.KOps_asc (Cert.KernelIdeal.Hand.Wl m ρ c) (Cert.KernelIdeal.Hand.mem_KOps_st7 (Cert.KernelIdeal.Hand.mem_st_7 (List.getElem_mem (l := Cert.KernelIdeal.GenP.hostOps7 (F := Ideal)) (n := 5) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part26 (List.getElem_mem (l := Cert.ReferenceIdeal.Hand.ops_part26 (F := Ideal)) (n := 7) (by decide))) rfl rfl rfl (by decide) (by decide) (ha := ⟨by decide, rfl⟩) (hb := ⟨by decide, rfl⟩) (hy := ⟨by decide, rfl⟩)
  rw [hk, hr, ← c_main_v188__main_v1285 hag hel, ← c_main_v193__main_v1291 hag hel]

theorem c_main_v194__main_v1416 : StableHlo.after Cert.KernelIdeal.Hand.KOps (Cert.KernelIdeal.Hand.Wl (F := Ideal) m ρ c) (Proc.devRef .tc Cert.KernelIdeal.main_v194) = StableHlo.after (Cert.ReferenceIdeal.Hand.ops (F := Ideal)) (StableHlo.launchContents m' c) (Proc.devRef .tc Cert.ReferenceIdeal.main_v1416) := by
  have hk := StableHlo.Ascending.eq_binary Cert.KernelIdeal.Hand.KOps_asc (Cert.KernelIdeal.Hand.Wl m ρ c) (Cert.KernelIdeal.Hand.mem_KOps_st7 (Cert.KernelIdeal.Hand.mem_st_7 (List.getElem_mem (l := Cert.KernelIdeal.GenP.hostOps7 (F := Ideal)) (n := 5) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part28 (List.getElem_mem (l := Cert.ReferenceIdeal.Hand.ops_part28 (F := Ideal)) (n := 41) (by decide))) rfl rfl rfl (by decide) (by decide) (ha := ⟨by decide, rfl⟩) (hb := ⟨by decide, rfl⟩) (hy := ⟨by decide, rfl⟩)
  rw [hk, hr, ← c_main_v188__main_v1409 hag hel, ← c_main_v193__main_v1415 hag hel]

theorem c_main_v194__main_v1540 : StableHlo.after Cert.KernelIdeal.Hand.KOps (Cert.KernelIdeal.Hand.Wl (F := Ideal) m ρ c) (Proc.devRef .tc Cert.KernelIdeal.main_v194) = StableHlo.after (Cert.ReferenceIdeal.Hand.ops (F := Ideal)) (StableHlo.launchContents m' c) (Proc.devRef .tc Cert.ReferenceIdeal.main_v1540) := by
  have hk := StableHlo.Ascending.eq_binary Cert.KernelIdeal.Hand.KOps_asc (Cert.KernelIdeal.Hand.Wl m ρ c) (Cert.KernelIdeal.Hand.mem_KOps_st7 (Cert.KernelIdeal.Hand.mem_st_7 (List.getElem_mem (l := Cert.KernelIdeal.GenP.hostOps7 (F := Ideal)) (n := 5) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part31 (List.getElem_mem (l := Cert.ReferenceIdeal.Hand.ops_part31 (F := Ideal)) (n := 13) (by decide))) rfl rfl rfl (by decide) (by decide) (ha := ⟨by decide, rfl⟩) (hb := ⟨by decide, rfl⟩) (hy := ⟨by decide, rfl⟩)
  rw [hk, hr, ← c_main_v188__main_v1533 hag hel, ← c_main_v193__main_v1539 hag hel]

theorem c_main_v194__main_v1664 : StableHlo.after Cert.KernelIdeal.Hand.KOps (Cert.KernelIdeal.Hand.Wl (F := Ideal) m ρ c) (Proc.devRef .tc Cert.KernelIdeal.main_v194) = StableHlo.after (Cert.ReferenceIdeal.Hand.ops (F := Ideal)) (StableHlo.launchContents m' c) (Proc.devRef .tc Cert.ReferenceIdeal.main_v1664) := by
  have hk := StableHlo.Ascending.eq_binary Cert.KernelIdeal.Hand.KOps_asc (Cert.KernelIdeal.Hand.Wl m ρ c) (Cert.KernelIdeal.Hand.mem_KOps_st7 (Cert.KernelIdeal.Hand.mem_st_7 (List.getElem_mem (l := Cert.KernelIdeal.GenP.hostOps7 (F := Ideal)) (n := 5) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part33 (List.getElem_mem (l := Cert.ReferenceIdeal.Hand.ops_part33 (F := Ideal)) (n := 59) (by decide))) rfl rfl rfl (by decide) (by decide) (ha := ⟨by decide, rfl⟩) (hb := ⟨by decide, rfl⟩) (hy := ⟨by decide, rfl⟩)
  rw [hk, hr, ← c_main_v188__main_v1657 hag hel, ← c_main_v193__main_v1663 hag hel]

theorem c_main_cst_29__main_cst_273 : StableHlo.after Cert.KernelIdeal.Hand.KOps (Cert.KernelIdeal.Hand.Wl (F := Ideal) m ρ c) (Proc.devRef .tc Cert.KernelIdeal.main_cst_29) = StableHlo.after (Cert.ReferenceIdeal.Hand.ops (F := Ideal)) (StableHlo.launchContents m' c) (Proc.devRef .tc Cert.ReferenceIdeal.main_cst_273) := by
  have hk := StableHlo.Ascending.eq_nullary Cert.KernelIdeal.Hand.KOps_asc (Cert.KernelIdeal.Hand.Wl m ρ c) (Cert.KernelIdeal.Hand.mem_KOps_st7 (Cert.KernelIdeal.Hand.mem_st_7 (List.getElem_mem (l := Cert.KernelIdeal.GenP.hostOps7 (F := Ideal)) (n := 6) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part26 (List.getElem_mem (l := Cert.ReferenceIdeal.Hand.ops_part26 (F := Ideal)) (n := 8) (by decide))) rfl (hy := ⟨by decide, rfl⟩)
  rw [hk, hr]

theorem c_main_cst_29__main_cst_301 : StableHlo.after Cert.KernelIdeal.Hand.KOps (Cert.KernelIdeal.Hand.Wl (F := Ideal) m ρ c) (Proc.devRef .tc Cert.KernelIdeal.main_cst_29) = StableHlo.after (Cert.ReferenceIdeal.Hand.ops (F := Ideal)) (StableHlo.launchContents m' c) (Proc.devRef .tc Cert.ReferenceIdeal.main_cst_301) := by
  have hk := StableHlo.Ascending.eq_nullary Cert.KernelIdeal.Hand.KOps_asc (Cert.KernelIdeal.Hand.Wl m ρ c) (Cert.KernelIdeal.Hand.mem_KOps_st7 (Cert.KernelIdeal.Hand.mem_st_7 (List.getElem_mem (l := Cert.KernelIdeal.GenP.hostOps7 (F := Ideal)) (n := 6) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part28 (List.getElem_mem (l := Cert.ReferenceIdeal.Hand.ops_part28 (F := Ideal)) (n := 42) (by decide))) rfl (hy := ⟨by decide, rfl⟩)
  rw [hk, hr]

theorem c_main_cst_29__main_cst_329 : StableHlo.after Cert.KernelIdeal.Hand.KOps (Cert.KernelIdeal.Hand.Wl (F := Ideal) m ρ c) (Proc.devRef .tc Cert.KernelIdeal.main_cst_29) = StableHlo.after (Cert.ReferenceIdeal.Hand.ops (F := Ideal)) (StableHlo.launchContents m' c) (Proc.devRef .tc Cert.ReferenceIdeal.main_cst_329) := by
  have hk := StableHlo.Ascending.eq_nullary Cert.KernelIdeal.Hand.KOps_asc (Cert.KernelIdeal.Hand.Wl m ρ c) (Cert.KernelIdeal.Hand.mem_KOps_st7 (Cert.KernelIdeal.Hand.mem_st_7 (List.getElem_mem (l := Cert.KernelIdeal.GenP.hostOps7 (F := Ideal)) (n := 6) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part31 (List.getElem_mem (l := Cert.ReferenceIdeal.Hand.ops_part31 (F := Ideal)) (n := 14) (by decide))) rfl (hy := ⟨by decide, rfl⟩)
  rw [hk, hr]

theorem c_main_cst_29__main_cst_357 : StableHlo.after Cert.KernelIdeal.Hand.KOps (Cert.KernelIdeal.Hand.Wl (F := Ideal) m ρ c) (Proc.devRef .tc Cert.KernelIdeal.main_cst_29) = StableHlo.after (Cert.ReferenceIdeal.Hand.ops (F := Ideal)) (StableHlo.launchContents m' c) (Proc.devRef .tc Cert.ReferenceIdeal.main_cst_357) := by
  have hk := StableHlo.Ascending.eq_nullary Cert.KernelIdeal.Hand.KOps_asc (Cert.KernelIdeal.Hand.Wl m ρ c) (Cert.KernelIdeal.Hand.mem_KOps_st7 (Cert.KernelIdeal.Hand.mem_st_7 (List.getElem_mem (l := Cert.KernelIdeal.GenP.hostOps7 (F := Ideal)) (n := 6) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part33 (List.getElem_mem (l := Cert.ReferenceIdeal.Hand.ops_part33 (F := Ideal)) (n := 60) (by decide))) rfl (hy := ⟨by decide, rfl⟩)
  rw [hk, hr]

theorem c_main_v195__main_v1293 : StableHlo.after Cert.KernelIdeal.Hand.KOps (Cert.KernelIdeal.Hand.Wl (F := Ideal) m ρ c) (Proc.devRef .tc Cert.KernelIdeal.main_v195) = StableHlo.after (Cert.ReferenceIdeal.Hand.ops (F := Ideal)) (StableHlo.launchContents m' c) (Proc.devRef .tc Cert.ReferenceIdeal.main_v1293) := by
  have hk := StableHlo.Ascending.eq_binary Cert.KernelIdeal.Hand.KOps_asc (Cert.KernelIdeal.Hand.Wl m ρ c) (Cert.KernelIdeal.Hand.mem_KOps_st7 (Cert.KernelIdeal.Hand.mem_st_7 (List.getElem_mem (l := Cert.KernelIdeal.GenP.hostOps7 (F := Ideal)) (n := 7) (by decide)))) rfl rfl rfl (by decide) (by decide) (a := Cert.KernelIdeal.main_v194) (b := Cert.KernelIdeal.main_cst_29) (y := Cert.KernelIdeal.main_v195) (f := open Cert.KernelIdeal Cert.KernelIdeal.Gen in (fun x v => Host.reduceAdd (F := Ideal) x v reducesTo_S2048x2048_S2048_d1 h_S_)) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part26 (List.getElem_mem (l := Cert.ReferenceIdeal.Hand.ops_part26 (F := Ideal)) (n := 9) (by decide))) rfl rfl rfl (by decide) (by decide) (a := Cert.ReferenceIdeal.main_v1292) (b := Cert.ReferenceIdeal.main_cst_273) (y := Cert.ReferenceIdeal.main_v1293) (f := open Cert.ReferenceIdeal Cert.ReferenceIdeal.Gen in (fun x v => Host.reduceAdd (F := Ideal) x v reducesTo_S2048x2048_S2048_d1 h_S_)) (ha := ⟨by decide, rfl⟩) (hb := ⟨by decide, rfl⟩) (hy := ⟨by decide, rfl⟩)
  rw [hk, hr, ← c_main_v194__main_v1292 hag hel, ← c_main_cst_29__main_cst_273 hag hel]

theorem c_main_v195__main_v1417 : StableHlo.after Cert.KernelIdeal.Hand.KOps (Cert.KernelIdeal.Hand.Wl (F := Ideal) m ρ c) (Proc.devRef .tc Cert.KernelIdeal.main_v195) = StableHlo.after (Cert.ReferenceIdeal.Hand.ops (F := Ideal)) (StableHlo.launchContents m' c) (Proc.devRef .tc Cert.ReferenceIdeal.main_v1417) := by
  have hk := StableHlo.Ascending.eq_binary Cert.KernelIdeal.Hand.KOps_asc (Cert.KernelIdeal.Hand.Wl m ρ c) (Cert.KernelIdeal.Hand.mem_KOps_st7 (Cert.KernelIdeal.Hand.mem_st_7 (List.getElem_mem (l := Cert.KernelIdeal.GenP.hostOps7 (F := Ideal)) (n := 7) (by decide)))) rfl rfl rfl (by decide) (by decide) (a := Cert.KernelIdeal.main_v194) (b := Cert.KernelIdeal.main_cst_29) (y := Cert.KernelIdeal.main_v195) (f := open Cert.KernelIdeal Cert.KernelIdeal.Gen in (fun x v => Host.reduceAdd (F := Ideal) x v reducesTo_S2048x2048_S2048_d1 h_S_)) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part28 (List.getElem_mem (l := Cert.ReferenceIdeal.Hand.ops_part28 (F := Ideal)) (n := 43) (by decide))) rfl rfl rfl (by decide) (by decide) (a := Cert.ReferenceIdeal.main_v1416) (b := Cert.ReferenceIdeal.main_cst_301) (y := Cert.ReferenceIdeal.main_v1417) (f := open Cert.ReferenceIdeal Cert.ReferenceIdeal.Gen in (fun x v => Host.reduceAdd (F := Ideal) x v reducesTo_S2048x2048_S2048_d1 h_S_)) (ha := ⟨by decide, rfl⟩) (hb := ⟨by decide, rfl⟩) (hy := ⟨by decide, rfl⟩)
  rw [hk, hr, ← c_main_v194__main_v1416 hag hel, ← c_main_cst_29__main_cst_301 hag hel]

theorem c_main_v195__main_v1541 : StableHlo.after Cert.KernelIdeal.Hand.KOps (Cert.KernelIdeal.Hand.Wl (F := Ideal) m ρ c) (Proc.devRef .tc Cert.KernelIdeal.main_v195) = StableHlo.after (Cert.ReferenceIdeal.Hand.ops (F := Ideal)) (StableHlo.launchContents m' c) (Proc.devRef .tc Cert.ReferenceIdeal.main_v1541) := by
  have hk := StableHlo.Ascending.eq_binary Cert.KernelIdeal.Hand.KOps_asc (Cert.KernelIdeal.Hand.Wl m ρ c) (Cert.KernelIdeal.Hand.mem_KOps_st7 (Cert.KernelIdeal.Hand.mem_st_7 (List.getElem_mem (l := Cert.KernelIdeal.GenP.hostOps7 (F := Ideal)) (n := 7) (by decide)))) rfl rfl rfl (by decide) (by decide) (a := Cert.KernelIdeal.main_v194) (b := Cert.KernelIdeal.main_cst_29) (y := Cert.KernelIdeal.main_v195) (f := open Cert.KernelIdeal Cert.KernelIdeal.Gen in (fun x v => Host.reduceAdd (F := Ideal) x v reducesTo_S2048x2048_S2048_d1 h_S_)) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part31 (List.getElem_mem (l := Cert.ReferenceIdeal.Hand.ops_part31 (F := Ideal)) (n := 15) (by decide))) rfl rfl rfl (by decide) (by decide) (a := Cert.ReferenceIdeal.main_v1540) (b := Cert.ReferenceIdeal.main_cst_329) (y := Cert.ReferenceIdeal.main_v1541) (f := open Cert.ReferenceIdeal Cert.ReferenceIdeal.Gen in (fun x v => Host.reduceAdd (F := Ideal) x v reducesTo_S2048x2048_S2048_d1 h_S_)) (ha := ⟨by decide, rfl⟩) (hb := ⟨by decide, rfl⟩) (hy := ⟨by decide, rfl⟩)
  rw [hk, hr, ← c_main_v194__main_v1540 hag hel, ← c_main_cst_29__main_cst_329 hag hel]

theorem c_main_v195__main_v1665 : StableHlo.after Cert.KernelIdeal.Hand.KOps (Cert.KernelIdeal.Hand.Wl (F := Ideal) m ρ c) (Proc.devRef .tc Cert.KernelIdeal.main_v195) = StableHlo.after (Cert.ReferenceIdeal.Hand.ops (F := Ideal)) (StableHlo.launchContents m' c) (Proc.devRef .tc Cert.ReferenceIdeal.main_v1665) := by
  have hk := StableHlo.Ascending.eq_binary Cert.KernelIdeal.Hand.KOps_asc (Cert.KernelIdeal.Hand.Wl m ρ c) (Cert.KernelIdeal.Hand.mem_KOps_st7 (Cert.KernelIdeal.Hand.mem_st_7 (List.getElem_mem (l := Cert.KernelIdeal.GenP.hostOps7 (F := Ideal)) (n := 7) (by decide)))) rfl rfl rfl (by decide) (by decide) (a := Cert.KernelIdeal.main_v194) (b := Cert.KernelIdeal.main_cst_29) (y := Cert.KernelIdeal.main_v195) (f := open Cert.KernelIdeal Cert.KernelIdeal.Gen in (fun x v => Host.reduceAdd (F := Ideal) x v reducesTo_S2048x2048_S2048_d1 h_S_)) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part33 (List.getElem_mem (l := Cert.ReferenceIdeal.Hand.ops_part33 (F := Ideal)) (n := 61) (by decide))) rfl rfl rfl (by decide) (by decide) (a := Cert.ReferenceIdeal.main_v1664) (b := Cert.ReferenceIdeal.main_cst_357) (y := Cert.ReferenceIdeal.main_v1665) (f := open Cert.ReferenceIdeal Cert.ReferenceIdeal.Gen in (fun x v => Host.reduceAdd (F := Ideal) x v reducesTo_S2048x2048_S2048_d1 h_S_)) (ha := ⟨by decide, rfl⟩) (hb := ⟨by decide, rfl⟩) (hy := ⟨by decide, rfl⟩)
  rw [hk, hr, ← c_main_v194__main_v1664 hag hel, ← c_main_cst_29__main_cst_357 hag hel]

theorem c_main_v196__main_v1294 : StableHlo.after Cert.KernelIdeal.Hand.KOps (Cert.KernelIdeal.Hand.Wl (F := Ideal) m ρ c) (Proc.devRef .tc Cert.KernelIdeal.main_v196) = StableHlo.after (Cert.ReferenceIdeal.Hand.ops (F := Ideal)) (StableHlo.launchContents m' c) (Proc.devRef .tc Cert.ReferenceIdeal.main_v1294) := by
  have hk := StableHlo.Ascending.eq_unary Cert.KernelIdeal.Hand.KOps_asc (Cert.KernelIdeal.Hand.Wl m ρ c) (Cert.KernelIdeal.Hand.mem_KOps_st7 (Cert.KernelIdeal.Hand.mem_st_7 (List.getElem_mem (l := Cert.KernelIdeal.GenP.hostOps7 (F := Ideal)) (n := 8) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part26 (List.getElem_mem (l := Cert.ReferenceIdeal.Hand.ops_part26 (F := Ideal)) (n := 10) (by decide))) rfl rfl (by decide) (hx := ⟨by decide, rfl⟩) (hy := ⟨by decide, rfl⟩)
  rw [hk, hr, ← c_main_v195__main_v1293 hag hel]

theorem c_main_v196__main_v1418 : StableHlo.after Cert.KernelIdeal.Hand.KOps (Cert.KernelIdeal.Hand.Wl (F := Ideal) m ρ c) (Proc.devRef .tc Cert.KernelIdeal.main_v196) = StableHlo.after (Cert.ReferenceIdeal.Hand.ops (F := Ideal)) (StableHlo.launchContents m' c) (Proc.devRef .tc Cert.ReferenceIdeal.main_v1418) := by
  have hk := StableHlo.Ascending.eq_unary Cert.KernelIdeal.Hand.KOps_asc (Cert.KernelIdeal.Hand.Wl m ρ c) (Cert.KernelIdeal.Hand.mem_KOps_st7 (Cert.KernelIdeal.Hand.mem_st_7 (List.getElem_mem (l := Cert.KernelIdeal.GenP.hostOps7 (F := Ideal)) (n := 8) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part28 (List.getElem_mem (l := Cert.ReferenceIdeal.Hand.ops_part28 (F := Ideal)) (n := 44) (by decide))) rfl rfl (by decide) (hx := ⟨by decide, rfl⟩) (hy := ⟨by decide, rfl⟩)
  rw [hk, hr, ← c_main_v195__main_v1417 hag hel]

theorem c_main_v196__main_v1542 : StableHlo.after Cert.KernelIdeal.Hand.KOps (Cert.KernelIdeal.Hand.Wl (F := Ideal) m ρ c) (Proc.devRef .tc Cert.KernelIdeal.main_v196) = StableHlo.after (Cert.ReferenceIdeal.Hand.ops (F := Ideal)) (StableHlo.launchContents m' c) (Proc.devRef .tc Cert.ReferenceIdeal.main_v1542) := by
  have hk := StableHlo.Ascending.eq_unary Cert.KernelIdeal.Hand.KOps_asc (Cert.KernelIdeal.Hand.Wl m ρ c) (Cert.KernelIdeal.Hand.mem_KOps_st7 (Cert.KernelIdeal.Hand.mem_st_7 (List.getElem_mem (l := Cert.KernelIdeal.GenP.hostOps7 (F := Ideal)) (n := 8) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part31 (List.getElem_mem (l := Cert.ReferenceIdeal.Hand.ops_part31 (F := Ideal)) (n := 16) (by decide))) rfl rfl (by decide) (hx := ⟨by decide, rfl⟩) (hy := ⟨by decide, rfl⟩)
  rw [hk, hr, ← c_main_v195__main_v1541 hag hel]

end Cert.Value

end
-- ==== Proof.Val.C006.lean ====
/- Steps C006 of the value claim's chain: for each listed pair, the kernel program's buffer and its reference twin hold equal contents at the two programs' final
   valuations — the two operations are the same function (read off the two operation lists) of operands already paired. A table; written by: bun scratch/corr.js 60 -/
import proofs.«146970_j35948876268088_1_alg».proof.Proof.Val.Seed
import proofs.«146970_j35948876268088_1_alg».proof.Proof.KI.Dots
import Mathlib.Tactic.FinCases
import proofs.«146970_j35948876268088_1_alg».proof.Proof.Val.C000
import proofs.«146970_j35948876268088_1_alg».proof.Proof.Val.C001
import proofs.«146970_j35948876268088_1_alg».proof.Proof.Val.C003
import proofs.«146970_j35948876268088_1_alg».proof.Proof.Val.C005

set_option maxRecDepth 16384

noncomputable section

namespace Cert.Value

open Idealize.ShloMosaic Idealize.ShloMosaic.TcCoe Idealize.SL.Sem

variable {m : (ℓ : Loc Cert.KernelIdeal.nD Cert.KernelIdeal.τ Cert.KernelIdeal.sig) → Buf (Elt Ideal) ℓ} {ρ : Dev Cert.KernelIdeal.nD → PrngReg}
  {m' : (ℓ : Loc Cert.ReferenceIdeal.nD Cert.ReferenceIdeal.τ Cert.ReferenceIdeal.sig) → Buf (Elt Ideal) ℓ} {c : Dev Cert.KernelIdeal.nD} (hag : Agree m m') (hel : Els m' c)
include hag hel

theorem c_main_v196__main_v1666 : StableHlo.after Cert.KernelIdeal.Hand.KOps (Cert.KernelIdeal.Hand.Wl (F := Ideal) m ρ c) (Proc.devRef .tc Cert.KernelIdeal.main_v196) = StableHlo.after (Cert.ReferenceIdeal.Hand.ops (F := Ideal)) (StableHlo.launchContents m' c) (Proc.devRef .tc Cert.ReferenceIdeal.main_v1666) := by
  have hk := StableHlo.Ascending.eq_unary Cert.KernelIdeal.Hand.KOps_asc (Cert.KernelIdeal.Hand.Wl m ρ c) (Cert.KernelIdeal.Hand.mem_KOps_st7 (Cert.KernelIdeal.Hand.mem_st_7 (List.getElem_mem (l := Cert.KernelIdeal.GenP.hostOps7 (F := Ideal)) (n := 8) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part33 (List.getElem_mem (l := Cert.ReferenceIdeal.Hand.ops_part33 (F := Ideal)) (n := 62) (by decide))) rfl rfl (by decide) (hx := ⟨by decide, rfl⟩) (hy := ⟨by decide, rfl⟩)
  rw [hk, hr, ← c_main_v195__main_v1665 hag hel]

theorem c_main_v197__main_v1295 : StableHlo.after Cert.KernelIdeal.Hand.KOps (Cert.KernelIdeal.Hand.Wl (F := Ideal) m ρ c) (Proc.devRef .tc Cert.KernelIdeal.main_v197) = StableHlo.after (Cert.ReferenceIdeal.Hand.ops (F := Ideal)) (StableHlo.launchContents m' c) (Proc.devRef .tc Cert.ReferenceIdeal.main_v1295) := by
  have hk := StableHlo.Ascending.eq_unary Cert.KernelIdeal.Hand.KOps_asc (Cert.KernelIdeal.Hand.Wl m ρ c) (Cert.KernelIdeal.Hand.mem_KOps_st7 (Cert.KernelIdeal.Hand.mem_st_7 (List.getElem_mem (l := Cert.KernelIdeal.GenP.hostOps7 (F := Ideal)) (n := 9) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part26 (List.getElem_mem (l := Cert.ReferenceIdeal.Hand.ops_part26 (F := Ideal)) (n := 11) (by decide))) rfl rfl (by decide) (hx := ⟨by decide, rfl⟩) (hy := ⟨by decide, rfl⟩)
  rw [hk, hr, ← c_main_v196__main_v1294 hag hel]

theorem c_main_v197__main_v1419 : StableHlo.after Cert.KernelIdeal.Hand.KOps (Cert.KernelIdeal.Hand.Wl (F := Ideal) m ρ c) (Proc.devRef .tc Cert.KernelIdeal.main_v197) = StableHlo.after (Cert.ReferenceIdeal.Hand.ops (F := Ideal)) (StableHlo.launchContents m' c) (Proc.devRef .tc Cert.ReferenceIdeal.main_v1419) := by
  have hk := StableHlo.Ascending.eq_unary Cert.KernelIdeal.Hand.KOps_asc (Cert.KernelIdeal.Hand.Wl m ρ c) (Cert.KernelIdeal.Hand.mem_KOps_st7 (Cert.KernelIdeal.Hand.mem_st_7 (List.getElem_mem (l := Cert.KernelIdeal.GenP.hostOps7 (F := Ideal)) (n := 9) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part28 (List.getElem_mem (l := Cert.ReferenceIdeal.Hand.ops_part28 (F := Ideal)) (n := 45) (by decide))) rfl rfl (by decide) (hx := ⟨by decide, rfl⟩) (hy := ⟨by decide, rfl⟩)
  rw [hk, hr, ← c_main_v196__main_v1418 hag hel]

theorem c_main_v197__main_v1543 : StableHlo.after Cert.KernelIdeal.Hand.KOps (Cert.KernelIdeal.Hand.Wl (F := Ideal) m ρ c) (Proc.devRef .tc Cert.KernelIdeal.main_v197) = StableHlo.after (Cert.ReferenceIdeal.Hand.ops (F := Ideal)) (StableHlo.launchContents m' c) (Proc.devRef .tc Cert.ReferenceIdeal.main_v1543) := by
  have hk := StableHlo.Ascending.eq_unary Cert.KernelIdeal.Hand.KOps_asc (Cert.KernelIdeal.Hand.Wl m ρ c) (Cert.KernelIdeal.Hand.mem_KOps_st7 (Cert.KernelIdeal.Hand.mem_st_7 (List.getElem_mem (l := Cert.KernelIdeal.GenP.hostOps7 (F := Ideal)) (n := 9) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part31 (List.getElem_mem (l := Cert.ReferenceIdeal.Hand.ops_part31 (F := Ideal)) (n := 17) (by decide))) rfl rfl (by decide) (hx := ⟨by decide, rfl⟩) (hy := ⟨by decide, rfl⟩)
  rw [hk, hr, ← c_main_v196__main_v1542 hag hel]

theorem c_main_v197__main_v1667 : StableHlo.after Cert.KernelIdeal.Hand.KOps (Cert.KernelIdeal.Hand.Wl (F := Ideal) m ρ c) (Proc.devRef .tc Cert.KernelIdeal.main_v197) = StableHlo.after (Cert.ReferenceIdeal.Hand.ops (F := Ideal)) (StableHlo.launchContents m' c) (Proc.devRef .tc Cert.ReferenceIdeal.main_v1667) := by
  have hk := StableHlo.Ascending.eq_unary Cert.KernelIdeal.Hand.KOps_asc (Cert.KernelIdeal.Hand.Wl m ρ c) (Cert.KernelIdeal.Hand.mem_KOps_st7 (Cert.KernelIdeal.Hand.mem_st_7 (List.getElem_mem (l := Cert.KernelIdeal.GenP.hostOps7 (F := Ideal)) (n := 9) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part33 (List.getElem_mem (l := Cert.ReferenceIdeal.Hand.ops_part33 (F := Ideal)) (n := 63) (by decide))) rfl rfl (by decide) (hx := ⟨by decide, rfl⟩) (hy := ⟨by decide, rfl⟩)
  rw [hk, hr, ← c_main_v196__main_v1666 hag hel]

theorem c_main_v198__main_v1296 : StableHlo.after Cert.KernelIdeal.Hand.KOps (Cert.KernelIdeal.Hand.Wl (F := Ideal) m ρ c) (Proc.devRef .tc Cert.KernelIdeal.main_v198) = StableHlo.after (Cert.ReferenceIdeal.Hand.ops (F := Ideal)) (StableHlo.launchContents m' c) (Proc.devRef .tc Cert.ReferenceIdeal.main_v1296) := by
  have hk := StableHlo.Ascending.eq_binary Cert.KernelIdeal.Hand.KOps_asc (Cert.KernelIdeal.Hand.Wl m ρ c) (Cert.KernelIdeal.Hand.mem_KOps_st7 (Cert.KernelIdeal.Hand.mem_st_7 (List.getElem_mem (l := Cert.KernelIdeal.GenP.hostOps7 (F := Ideal)) (n := 10) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part26 (List.getElem_mem (l := Cert.ReferenceIdeal.Hand.ops_part26 (F := Ideal)) (n := 12) (by decide))) rfl rfl rfl (by decide) (by decide) (ha := ⟨by decide, rfl⟩) (hb := ⟨by decide, rfl⟩) (hy := ⟨by decide, rfl⟩)
  rw [hk, hr, ← c_main_v24__main_v122 hag hel, ← c_main_v197__main_v1295 hag hel]

theorem c_main_v198__main_v1420 : StableHlo.after Cert.KernelIdeal.Hand.KOps (Cert.KernelIdeal.Hand.Wl (F := Ideal) m ρ c) (Proc.devRef .tc Cert.KernelIdeal.main_v198) = StableHlo.after (Cert.ReferenceIdeal.Hand.ops (F := Ideal)) (StableHlo.launchContents m' c) (Proc.devRef .tc Cert.ReferenceIdeal.main_v1420) := by
  have hk := StableHlo.Ascending.eq_binary Cert.KernelIdeal.Hand.KOps_asc (Cert.KernelIdeal.Hand.Wl m ρ c) (Cert.KernelIdeal.Hand.mem_KOps_st7 (Cert.KernelIdeal.Hand.mem_st_7 (List.getElem_mem (l := Cert.KernelIdeal.GenP.hostOps7 (F := Ideal)) (n := 10) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part28 (List.getElem_mem (l := Cert.ReferenceIdeal.Hand.ops_part28 (F := Ideal)) (n := 46) (by decide))) rfl rfl rfl (by decide) (by decide) (ha := ⟨by decide, rfl⟩) (hb := ⟨by decide, rfl⟩) (hy := ⟨by decide, rfl⟩)
  rw [hk, hr, ← c_main_v24__main_v122 hag hel, ← c_main_v197__main_v1419 hag hel]

theorem c_main_v198__main_v1544 : StableHlo.after Cert.KernelIdeal.Hand.KOps (Cert.KernelIdeal.Hand.Wl (F := Ideal) m ρ c) (Proc.devRef .tc Cert.KernelIdeal.main_v198) = StableHlo.after (Cert.ReferenceIdeal.Hand.ops (F := Ideal)) (StableHlo.launchContents m' c) (Proc.devRef .tc Cert.ReferenceIdeal.main_v1544) := by
  have hk := StableHlo.Ascending.eq_binary Cert.KernelIdeal.Hand.KOps_asc (Cert.KernelIdeal.Hand.Wl m ρ c) (Cert.KernelIdeal.Hand.mem_KOps_st7 (Cert.KernelIdeal.Hand.mem_st_7 (List.getElem_mem (l := Cert.KernelIdeal.GenP.hostOps7 (F := Ideal)) (n := 10) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part31 (List.getElem_mem (l := Cert.ReferenceIdeal.Hand.ops_part31 (F := Ideal)) (n := 18) (by decide))) rfl rfl rfl (by decide) (by decide) (ha := ⟨by decide, rfl⟩) (hb := ⟨by decide, rfl⟩) (hy := ⟨by decide, rfl⟩)
  rw [hk, hr, ← c_main_v24__main_v122 hag hel, ← c_main_v197__main_v1543 hag hel]

theorem c_main_v198__main_v1668 : StableHlo.after Cert.KernelIdeal.Hand.KOps (Cert.KernelIdeal.Hand.Wl (F := Ideal) m ρ c) (Proc.devRef .tc Cert.KernelIdeal.main_v198) = StableHlo.after (Cert.ReferenceIdeal.Hand.ops (F := Ideal)) (StableHlo.launchContents m' c) (Proc.devRef .tc Cert.ReferenceIdeal.main_v1668) := by
  have hk := StableHlo.Ascending.eq_binary Cert.KernelIdeal.Hand.KOps_asc (Cert.KernelIdeal.Hand.Wl m ρ c) (Cert.KernelIdeal.Hand.mem_KOps_st7 (Cert.KernelIdeal.Hand.mem_st_7 (List.getElem_mem (l := Cert.KernelIdeal.GenP.hostOps7 (F := Ideal)) (n := 10) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part33 (List.getElem_mem (l := Cert.ReferenceIdeal.Hand.ops_part33 (F := Ideal)) (n := 64) (by decide))) rfl rfl rfl (by decide) (by decide) (ha := ⟨by decide, rfl⟩) (hb := ⟨by decide, rfl⟩) (hy := ⟨by decide, rfl⟩)
  rw [hk, hr, ← c_main_v24__main_v122 hag hel, ← c_main_v197__main_v1667 hag hel]

theorem c_main_cst_30__main_cst_274 : StableHlo.after Cert.KernelIdeal.Hand.KOps (Cert.KernelIdeal.Hand.Wl (F := Ideal) m ρ c) (Proc.devRef .tc Cert.KernelIdeal.main_cst_30) = StableHlo.after (Cert.ReferenceIdeal.Hand.ops (F := Ideal)) (StableHlo.launchContents m' c) (Proc.devRef .tc Cert.ReferenceIdeal.main_cst_274) := by
  have hk := StableHlo.Ascending.eq_nullary Cert.KernelIdeal.Hand.KOps_asc (Cert.KernelIdeal.Hand.Wl m ρ c) (Cert.KernelIdeal.Hand.mem_KOps_st7 (Cert.KernelIdeal.Hand.mem_st_7 (List.getElem_mem (l := Cert.KernelIdeal.GenP.hostOps7 (F := Ideal)) (n := 11) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part26 (List.getElem_mem (l := Cert.ReferenceIdeal.Hand.ops_part26 (F := Ideal)) (n := 13) (by decide))) rfl (hy := ⟨by decide, rfl⟩)
  rw [hk, hr]

theorem c_main_cst_30__main_cst_302 : StableHlo.after Cert.KernelIdeal.Hand.KOps (Cert.KernelIdeal.Hand.Wl (F := Ideal) m ρ c) (Proc.devRef .tc Cert.KernelIdeal.main_cst_30) = StableHlo.after (Cert.ReferenceIdeal.Hand.ops (F := Ideal)) (StableHlo.launchContents m' c) (Proc.devRef .tc Cert.ReferenceIdeal.main_cst_302) := by
  have hk := StableHlo.Ascending.eq_nullary Cert.KernelIdeal.Hand.KOps_asc (Cert.KernelIdeal.Hand.Wl m ρ c) (Cert.KernelIdeal.Hand.mem_KOps_st7 (Cert.KernelIdeal.Hand.mem_st_7 (List.getElem_mem (l := Cert.KernelIdeal.GenP.hostOps7 (F := Ideal)) (n := 11) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part28 (List.getElem_mem (l := Cert.ReferenceIdeal.Hand.ops_part28 (F := Ideal)) (n := 47) (by decide))) rfl (hy := ⟨by decide, rfl⟩)
  rw [hk, hr]

theorem c_main_cst_30__main_cst_330 : StableHlo.after Cert.KernelIdeal.Hand.KOps (Cert.KernelIdeal.Hand.Wl (F := Ideal) m ρ c) (Proc.devRef .tc Cert.KernelIdeal.main_cst_30) = StableHlo.after (Cert.ReferenceIdeal.Hand.ops (F := Ideal)) (StableHlo.launchContents m' c) (Proc.devRef .tc Cert.ReferenceIdeal.main_cst_330) := by
  have hk := StableHlo.Ascending.eq_nullary Cert.KernelIdeal.Hand.KOps_asc (Cert.KernelIdeal.Hand.Wl m ρ c) (Cert.KernelIdeal.Hand.mem_KOps_st7 (Cert.KernelIdeal.Hand.mem_st_7 (List.getElem_mem (l := Cert.KernelIdeal.GenP.hostOps7 (F := Ideal)) (n := 11) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part31 (List.getElem_mem (l := Cert.ReferenceIdeal.Hand.ops_part31 (F := Ideal)) (n := 19) (by decide))) rfl (hy := ⟨by decide, rfl⟩)
  rw [hk, hr]

theorem c_main_cst_30__main_cst_358 : StableHlo.after Cert.KernelIdeal.Hand.KOps (Cert.KernelIdeal.Hand.Wl (F := Ideal) m ρ c) (Proc.devRef .tc Cert.KernelIdeal.main_cst_30) = StableHlo.after (Cert.ReferenceIdeal.Hand.ops (F := Ideal)) (StableHlo.launchContents m' c) (Proc.devRef .tc Cert.ReferenceIdeal.main_cst_358) := by
  have hk := StableHlo.Ascending.eq_nullary Cert.KernelIdeal.Hand.KOps_asc (Cert.KernelIdeal.Hand.Wl m ρ c) (Cert.KernelIdeal.Hand.mem_KOps_st7 (Cert.KernelIdeal.Hand.mem_st_7 (List.getElem_mem (l := Cert.KernelIdeal.GenP.hostOps7 (F := Ideal)) (n := 11) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part33 (List.getElem_mem (l := Cert.ReferenceIdeal.Hand.ops_part33 (F := Ideal)) (n := 65) (by decide))) rfl (hy := ⟨by decide, rfl⟩)
  rw [hk, hr]

theorem c_main_v199__main_v1297 : StableHlo.after Cert.KernelIdeal.Hand.KOps (Cert.KernelIdeal.Hand.Wl (F := Ideal) m ρ c) (Proc.devRef .tc Cert.KernelIdeal.main_v199) = StableHlo.after (Cert.ReferenceIdeal.Hand.ops (F := Ideal)) (StableHlo.launchContents m' c) (Proc.devRef .tc Cert.ReferenceIdeal.main_v1297) := by
  have hk := StableHlo.Ascending.eq_binary Cert.KernelIdeal.Hand.KOps_asc (Cert.KernelIdeal.Hand.Wl m ρ c) (Cert.KernelIdeal.Hand.mem_KOps_st7 (Cert.KernelIdeal.Hand.mem_st_7 (List.getElem_mem (l := Cert.KernelIdeal.GenP.hostOps7 (F := Ideal)) (n := 12) (by decide)))) rfl rfl rfl (by decide) (by decide) (a := Cert.KernelIdeal.main_v198) (b := Cert.KernelIdeal.main_cst_30) (y := Cert.KernelIdeal.main_v199) (f := open Cert.KernelIdeal Cert.KernelIdeal.Gen in (fun x v => Host.reduceAdd (F := Ideal) x v reducesTo_S2048x2048_S2048_d0 h_S_)) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part26 (List.getElem_mem (l := Cert.ReferenceIdeal.Hand.ops_part26 (F := Ideal)) (n := 14) (by decide))) rfl rfl rfl (by decide) (by decide) (a := Cert.ReferenceIdeal.main_v1296) (b := Cert.ReferenceIdeal.main_cst_274) (y := Cert.ReferenceIdeal.main_v1297) (f := open Cert.ReferenceIdeal Cert.ReferenceIdeal.Gen in (fun x v => Host.reduceAdd (F := Ideal) x v reducesTo_S2048x2048_S2048_d0 h_S_)) (ha := ⟨by decide, rfl⟩) (hb := ⟨by decide, rfl⟩) (hy := ⟨by decide, rfl⟩)
  rw [hk, hr, ← c_main_v198__main_v1296 hag hel, ← c_main_cst_30__main_cst_274 hag hel]

theorem c_main_v199__main_v1421 : StableHlo.after Cert.KernelIdeal.Hand.KOps (Cert.KernelIdeal.Hand.Wl (F := Ideal) m ρ c) (Proc.devRef .tc Cert.KernelIdeal.main_v199) = StableHlo.after (Cert.ReferenceIdeal.Hand.ops (F := Ideal)) (StableHlo.launchContents m' c) (Proc.devRef .tc Cert.ReferenceIdeal.main_v1421) := by
  have hk := StableHlo.Ascending.eq_binary Cert.KernelIdeal.Hand.KOps_asc (Cert.KernelIdeal.Hand.Wl m ρ c) (Cert.KernelIdeal.Hand.mem_KOps_st7 (Cert.KernelIdeal.Hand.mem_st_7 (List.getElem_mem (l := Cert.KernelIdeal.GenP.hostOps7 (F := Ideal)) (n := 12) (by decide)))) rfl rfl rfl (by decide) (by decide) (a := Cert.KernelIdeal.main_v198) (b := Cert.KernelIdeal.main_cst_30) (y := Cert.KernelIdeal.main_v199) (f := open Cert.KernelIdeal Cert.KernelIdeal.Gen in (fun x v => Host.reduceAdd (F := Ideal) x v reducesTo_S2048x2048_S2048_d0 h_S_)) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part28 (List.getElem_mem (l := Cert.ReferenceIdeal.Hand.ops_part28 (F := Ideal)) (n := 48) (by decide))) rfl rfl rfl (by decide) (by decide) (a := Cert.ReferenceIdeal.main_v1420) (b := Cert.ReferenceIdeal.main_cst_302) (y := Cert.ReferenceIdeal.main_v1421) (f := open Cert.ReferenceIdeal Cert.ReferenceIdeal.Gen in (fun x v => Host.reduceAdd (F := Ideal) x v reducesTo_S2048x2048_S2048_d0 h_S_)) (ha := ⟨by decide, rfl⟩) (hb := ⟨by decide, rfl⟩) (hy := ⟨by decide, rfl⟩)
  rw [hk, hr, ← c_main_v198__main_v1420 hag hel, ← c_main_cst_30__main_cst_302 hag hel]

theorem c_main_v199__main_v1545 : StableHlo.after Cert.KernelIdeal.Hand.KOps (Cert.KernelIdeal.Hand.Wl (F := Ideal) m ρ c) (Proc.devRef .tc Cert.KernelIdeal.main_v199) = StableHlo.after (Cert.ReferenceIdeal.Hand.ops (F := Ideal)) (StableHlo.launchContents m' c) (Proc.devRef .tc Cert.ReferenceIdeal.main_v1545) := by
  have hk := StableHlo.Ascending.eq_binary Cert.KernelIdeal.Hand.KOps_asc (Cert.KernelIdeal.Hand.Wl m ρ c) (Cert.KernelIdeal.Hand.mem_KOps_st7 (Cert.KernelIdeal.Hand.mem_st_7 (List.getElem_mem (l := Cert.KernelIdeal.GenP.hostOps7 (F := Ideal)) (n := 12) (by decide)))) rfl rfl rfl (by decide) (by decide) (a := Cert.KernelIdeal.main_v198) (b := Cert.KernelIdeal.main_cst_30) (y := Cert.KernelIdeal.main_v199) (f := open Cert.KernelIdeal Cert.KernelIdeal.Gen in (fun x v => Host.reduceAdd (F := Ideal) x v reducesTo_S2048x2048_S2048_d0 h_S_)) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part31 (List.getElem_mem (l := Cert.ReferenceIdeal.Hand.ops_part31 (F := Ideal)) (n := 20) (by decide))) rfl rfl rfl (by decide) (by decide) (a := Cert.ReferenceIdeal.main_v1544) (b := Cert.ReferenceIdeal.main_cst_330) (y := Cert.ReferenceIdeal.main_v1545) (f := open Cert.ReferenceIdeal Cert.ReferenceIdeal.Gen in (fun x v => Host.reduceAdd (F := Ideal) x v reducesTo_S2048x2048_S2048_d0 h_S_)) (ha := ⟨by decide, rfl⟩) (hb := ⟨by decide, rfl⟩) (hy := ⟨by decide, rfl⟩)
  rw [hk, hr, ← c_main_v198__main_v1544 hag hel, ← c_main_cst_30__main_cst_330 hag hel]

theorem c_main_v199__main_v1669 : StableHlo.after Cert.KernelIdeal.Hand.KOps (Cert.KernelIdeal.Hand.Wl (F := Ideal) m ρ c) (Proc.devRef .tc Cert.KernelIdeal.main_v199) = StableHlo.after (Cert.ReferenceIdeal.Hand.ops (F := Ideal)) (StableHlo.launchContents m' c) (Proc.devRef .tc Cert.ReferenceIdeal.main_v1669) := by
  have hk := StableHlo.Ascending.eq_binary Cert.KernelIdeal.Hand.KOps_asc (Cert.KernelIdeal.Hand.Wl m ρ c) (Cert.KernelIdeal.Hand.mem_KOps_st7 (Cert.KernelIdeal.Hand.mem_st_7 (List.getElem_mem (l := Cert.KernelIdeal.GenP.hostOps7 (F := Ideal)) (n := 12) (by decide)))) rfl rfl rfl (by decide) (by decide) (a := Cert.KernelIdeal.main_v198) (b := Cert.KernelIdeal.main_cst_30) (y := Cert.KernelIdeal.main_v199) (f := open Cert.KernelIdeal Cert.KernelIdeal.Gen in (fun x v => Host.reduceAdd (F := Ideal) x v reducesTo_S2048x2048_S2048_d0 h_S_)) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part33 (List.getElem_mem (l := Cert.ReferenceIdeal.Hand.ops_part33 (F := Ideal)) (n := 66) (by decide))) rfl rfl rfl (by decide) (by decide) (a := Cert.ReferenceIdeal.main_v1668) (b := Cert.ReferenceIdeal.main_cst_358) (y := Cert.ReferenceIdeal.main_v1669) (f := open Cert.ReferenceIdeal Cert.ReferenceIdeal.Gen in (fun x v => Host.reduceAdd (F := Ideal) x v reducesTo_S2048x2048_S2048_d0 h_S_)) (ha := ⟨by decide, rfl⟩) (hb := ⟨by decide, rfl⟩) (hy := ⟨by decide, rfl⟩)
  rw [hk, hr, ← c_main_v198__main_v1668 hag hel, ← c_main_cst_30__main_cst_358 hag hel]

theorem c_main_v200__main_v1298 : StableHlo.after Cert.KernelIdeal.Hand.KOps (Cert.KernelIdeal.Hand.Wl (F := Ideal) m ρ c) (Proc.devRef .tc Cert.KernelIdeal.main_v200) = StableHlo.after (Cert.ReferenceIdeal.Hand.ops (F := Ideal)) (StableHlo.launchContents m' c) (Proc.devRef .tc Cert.ReferenceIdeal.main_v1298) := by
  have hk := StableHlo.Ascending.eq_unary Cert.KernelIdeal.Hand.KOps_asc (Cert.KernelIdeal.Hand.Wl m ρ c) (Cert.KernelIdeal.Hand.mem_KOps_st7 (Cert.KernelIdeal.Hand.mem_st_7 (List.getElem_mem (l := Cert.KernelIdeal.GenP.hostOps7 (F := Ideal)) (n := 13) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part26 (List.getElem_mem (l := Cert.ReferenceIdeal.Hand.ops_part26 (F := Ideal)) (n := 15) (by decide))) rfl rfl (by decide) (hx := ⟨by decide, rfl⟩) (hy := ⟨by decide, rfl⟩)
  rw [hk, hr, ← c_main_v199__main_v1297 hag hel]

theorem c_main_v200__main_v1422 : StableHlo.after Cert.KernelIdeal.Hand.KOps (Cert.KernelIdeal.Hand.Wl (F := Ideal) m ρ c) (Proc.devRef .tc Cert.KernelIdeal.main_v200) = StableHlo.after (Cert.ReferenceIdeal.Hand.ops (F := Ideal)) (StableHlo.launchContents m' c) (Proc.devRef .tc Cert.ReferenceIdeal.main_v1422) := by
  have hk := StableHlo.Ascending.eq_unary Cert.KernelIdeal.Hand.KOps_asc (Cert.KernelIdeal.Hand.Wl m ρ c) (Cert.KernelIdeal.Hand.mem_KOps_st7 (Cert.KernelIdeal.Hand.mem_st_7 (List.getElem_mem (l := Cert.KernelIdeal.GenP.hostOps7 (F := Ideal)) (n := 13) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part28 (List.getElem_mem (l := Cert.ReferenceIdeal.Hand.ops_part28 (F := Ideal)) (n := 49) (by decide))) rfl rfl (by decide) (hx := ⟨by decide, rfl⟩) (hy := ⟨by decide, rfl⟩)
  rw [hk, hr, ← c_main_v199__main_v1421 hag hel]

theorem c_main_v200__main_v1546 : StableHlo.after Cert.KernelIdeal.Hand.KOps (Cert.KernelIdeal.Hand.Wl (F := Ideal) m ρ c) (Proc.devRef .tc Cert.KernelIdeal.main_v200) = StableHlo.after (Cert.ReferenceIdeal.Hand.ops (F := Ideal)) (StableHlo.launchContents m' c) (Proc.devRef .tc Cert.ReferenceIdeal.main_v1546) := by
  have hk := StableHlo.Ascending.eq_unary Cert.KernelIdeal.Hand.KOps_asc (Cert.KernelIdeal.Hand.Wl m ρ c) (Cert.KernelIdeal.Hand.mem_KOps_st7 (Cert.KernelIdeal.Hand.mem_st_7 (List.getElem_mem (l := Cert.KernelIdeal.GenP.hostOps7 (F := Ideal)) (n := 13) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part31 (List.getElem_mem (l := Cert.ReferenceIdeal.Hand.ops_part31 (F := Ideal)) (n := 21) (by decide))) rfl rfl (by decide) (hx := ⟨by decide, rfl⟩) (hy := ⟨by decide, rfl⟩)
  rw [hk, hr, ← c_main_v199__main_v1545 hag hel]

theorem c_main_v200__main_v1670 : StableHlo.after Cert.KernelIdeal.Hand.KOps (Cert.KernelIdeal.Hand.Wl (F := Ideal) m ρ c) (Proc.devRef .tc Cert.KernelIdeal.main_v200) = StableHlo.after (Cert.ReferenceIdeal.Hand.ops (F := Ideal)) (StableHlo.launchContents m' c) (Proc.devRef .tc Cert.ReferenceIdeal.main_v1670) := by
  have hk := StableHlo.Ascending.eq_unary Cert.KernelIdeal.Hand.KOps_asc (Cert.KernelIdeal.Hand.Wl m ρ c) (Cert.KernelIdeal.Hand.mem_KOps_st7 (Cert.KernelIdeal.Hand.mem_st_7 (List.getElem_mem (l := Cert.KernelIdeal.GenP.hostOps7 (F := Ideal)) (n := 13) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part33 (List.getElem_mem (l := Cert.ReferenceIdeal.Hand.ops_part33 (F := Ideal)) (n := 67) (by decide))) rfl rfl (by decide) (hx := ⟨by decide, rfl⟩) (hy := ⟨by decide, rfl⟩)
  rw [hk, hr, ← c_main_v199__main_v1669 hag hel]

theorem c_main_v201__main_v1259 : StableHlo.after Cert.KernelIdeal.Hand.KOps (Cert.KernelIdeal.Hand.Wl (F := Ideal) m ρ c) (Proc.devRef .tc Cert.KernelIdeal.main_v201) = StableHlo.after (Cert.ReferenceIdeal.Hand.ops (F := Ideal)) (StableHlo.launchContents m' c) (Proc.devRef .tc Cert.ReferenceIdeal.main_v1259) := by
  have hk := StableHlo.Ascending.eq_unary Cert.KernelIdeal.Hand.KOps_asc (Cert.KernelIdeal.Hand.Wl m ρ c) (Cert.KernelIdeal.Hand.mem_KOps_st7 (Cert.KernelIdeal.Hand.mem_st_7 (List.getElem_mem (l := Cert.KernelIdeal.GenP.hostOps7 (F := Ideal)) (n := 14) (by decide)))) rfl rfl (by decide) (x := Cert.KernelIdeal.main_v165) (y := Cert.KernelIdeal.main_v201) (f := open Cert.KernelIdeal Cert.KernelIdeal.Gen in (extractStridedSlice S16x1 ![0, 0] · slices_S16x8_S16x1_0_0)) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part25 (List.getElem_mem (l := Cert.ReferenceIdeal.Hand.ops_part25 (F := Ideal)) (n := 28) (by decide))) rfl rfl (by decide) (x := Cert.ReferenceIdeal.main_v1258) (y := Cert.ReferenceIdeal.main_v1259) (f := open Cert.ReferenceIdeal Cert.ReferenceIdeal.Gen in (extractStridedSlice S16x1 ![0, 0] · slices_S16x8_S16x1_0_0)) (hx := ⟨by decide, rfl⟩) (hy := ⟨by decide, rfl⟩)
  rw [hk, hr, ← c_main_v165__main_v1258 hag hel]

theorem c_main_v202__main_v1260 : StableHlo.after Cert.KernelIdeal.Hand.KOps (Cert.KernelIdeal.Hand.Wl (F := Ideal) m ρ c) (Proc.devRef .tc Cert.KernelIdeal.main_v202) = StableHlo.after (Cert.ReferenceIdeal.Hand.ops (F := Ideal)) (StableHlo.launchContents m' c) (Proc.devRef .tc Cert.ReferenceIdeal.main_v1260) := by
  have hk := StableHlo.Ascending.eq_unary Cert.KernelIdeal.Hand.KOps_asc (Cert.KernelIdeal.Hand.Wl m ρ c) (Cert.KernelIdeal.Hand.mem_KOps_st7 (Cert.KernelIdeal.Hand.mem_st_7 (List.getElem_mem (l := Cert.KernelIdeal.GenP.hostOps7 (F := Ideal)) (n := 15) (by decide)))) rfl rfl (by decide) (x := Cert.KernelIdeal.main_v165) (y := Cert.KernelIdeal.main_v202) (f := open Cert.KernelIdeal Cert.KernelIdeal.Gen in (extractStridedSlice S16x1 ![0, 4] · slices_S16x8_S16x1_0_4)) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part25 (List.getElem_mem (l := Cert.ReferenceIdeal.Hand.ops_part25 (F := Ideal)) (n := 29) (by decide))) rfl rfl (by decide) (x := Cert.ReferenceIdeal.main_v1258) (y := Cert.ReferenceIdeal.main_v1260) (f := open Cert.ReferenceIdeal Cert.ReferenceIdeal.Gen in (extractStridedSlice S16x1 ![0, 4] · slices_S16x8_S16x1_0_4)) (hx := ⟨by decide, rfl⟩) (hy := ⟨by decide, rfl⟩)
  rw [hk, hr, ← c_main_v165__main_v1258 hag hel]

theorem c_main_v203__main_v1261 : StableHlo.after Cert.KernelIdeal.Hand.KOps (Cert.KernelIdeal.Hand.Wl (F := Ideal) m ρ c) (Proc.devRef .tc Cert.KernelIdeal.main_v203) = StableHlo.after (Cert.ReferenceIdeal.Hand.ops (F := Ideal)) (StableHlo.launchContents m' c) (Proc.devRef .tc Cert.ReferenceIdeal.main_v1261) := by
  have hk := StableHlo.Ascending.eq_unary Cert.KernelIdeal.Hand.KOps_asc (Cert.KernelIdeal.Hand.Wl m ρ c) (Cert.KernelIdeal.Hand.mem_KOps_st7 (Cert.KernelIdeal.Hand.mem_st_7 (List.getElem_mem (l := Cert.KernelIdeal.GenP.hostOps7 (F := Ideal)) (n := 16) (by decide)))) rfl rfl (by decide) (x := Cert.KernelIdeal.main_arg4) (y := Cert.KernelIdeal.main_v203) (f := open Cert.KernelIdeal Cert.KernelIdeal.Gen in (extractStridedSlice S1x256x8 ![0, 0, 0] · slices_S4x256x8_S1x256x8_0_0_0)) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part25 (List.getElem_mem (l := Cert.ReferenceIdeal.Hand.ops_part25 (F := Ideal)) (n := 30) (by decide))) rfl rfl (by decide) (x := Cert.ReferenceIdeal.main_arg4) (y := Cert.ReferenceIdeal.main_v1261) (f := open Cert.ReferenceIdeal Cert.ReferenceIdeal.Gen in (extractStridedSlice S1x256x8 ![0, 0, 0] · slices_S4x256x8_S1x256x8_0_0_0)) (hx := ⟨by decide, rfl⟩) (hy := ⟨by decide, rfl⟩)
  rw [hk, hr, ← c_main_arg4__main_arg4 hag hel]

theorem c_main_v204__main_v1262 : StableHlo.after Cert.KernelIdeal.Hand.KOps (Cert.KernelIdeal.Hand.Wl (F := Ideal) m ρ c) (Proc.devRef .tc Cert.KernelIdeal.main_v204) = StableHlo.after (Cert.ReferenceIdeal.Hand.ops (F := Ideal)) (StableHlo.launchContents m' c) (Proc.devRef .tc Cert.ReferenceIdeal.main_v1262) := by
  have hk := StableHlo.Ascending.eq_reshape Cert.KernelIdeal.Hand.KOps_asc (Cert.KernelIdeal.Hand.Wl m ρ c) (Cert.KernelIdeal.Hand.mem_KOps_st7 (Cert.KernelIdeal.Hand.mem_st_7 (List.getElem_mem (l := Cert.KernelIdeal.GenP.hostOps7 (F := Ideal)) (n := 17) (by decide)))) rfl rfl (by decide) (x := Cert.KernelIdeal.main_v203) (y := Cert.KernelIdeal.main_v204) (he := rfl) (hn := Cert.KernelIdeal.Gen.shapeCasts_S1x256x8_S256x8) (hx := ⟨by decide, rfl⟩) (hy := ⟨by decide, rfl⟩)
  have hr := StableHlo.Ascending.eq_reshape (Cert.ReferenceIdeal.Hand.ops_asc (F := Ideal)) (StableHlo.launchContents m' c) (Cert.ReferenceIdeal.Hand.mem_ops_part25 (List.getElem_mem (l := Cert.ReferenceIdeal.Hand.ops_part25 (F := Ideal)) (n := 31) (by decide))) rfl rfl (by decide) (x := Cert.ReferenceIdeal.main_v1261) (y := Cert.ReferenceIdeal.main_v1262) (he := rfl) (hn := Cert.ReferenceIdeal.Gen.shapeCasts_S1x256x8_S256x8) (hx := ⟨by decide, rfl⟩) (hy := ⟨by decide, rfl⟩)
  rw [hk, hr, ← c_main_v203__main_v1261 hag hel]
  rfl

theorem c_main_v205__main_v1299 : StableHlo.after Cert.KernelIdeal.Hand.KOps (Cert.KernelIdeal.Hand.Wl (F := Ideal) m ρ c) (Proc.devRef .tc Cert.KernelIdeal.main_v205) = StableHlo.after (Cert.ReferenceIdeal.Hand.ops (F := Ideal)) (StableHlo.launchContents m' c) (Proc.devRef .tc Cert.ReferenceIdeal.main_v1299) := by
  have hk := StableHlo.Ascending.eq_binary Cert.KernelIdeal.Hand.KOps_asc (Cert.KernelIdeal.Hand.Wl m ρ c) (Cert.KernelIdeal.Hand.mem_KOps_st7 (Cert.KernelIdeal.Hand.mem_st_7 (List.getElem_mem (l := Cert.KernelIdeal.GenP.hostOps7 (F := Ideal)) (n := 18) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part26 (List.getElem_mem (l := Cert.ReferenceIdeal.Hand.ops_part26 (F := Ideal)) (n := 16) (by decide))) rfl rfl rfl (by decide) (by decide) (ha := ⟨by decide, rfl⟩) (hb := ⟨by decide, rfl⟩) (hy := ⟨by decide, rfl⟩)
  rw [hk, hr, ← c_main_v45__main_v144 hag hel, ← c_main_v204__main_v1262 hag hel]
  rfl

theorem c_main_v206__main_v1300 : StableHlo.after Cert.KernelIdeal.Hand.KOps (Cert.KernelIdeal.Hand.Wl (F := Ideal) m ρ c) (Proc.devRef .tc Cert.KernelIdeal.main_v206) = StableHlo.after (Cert.ReferenceIdeal.Hand.ops (F := Ideal)) (StableHlo.launchContents m' c) (Proc.devRef .tc Cert.ReferenceIdeal.main_v1300) := by
  have hk := StableHlo.Ascending.eq_binary Cert.KernelIdeal.Hand.KOps_asc (Cert.KernelIdeal.Hand.Wl m ρ c) (Cert.KernelIdeal.Hand.mem_KOps_st7 (Cert.KernelIdeal.Hand.mem_st_7 (List.getElem_mem (l := Cert.KernelIdeal.GenP.hostOps7 (F := Ideal)) (n := 19) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part26 (List.getElem_mem (l := Cert.ReferenceIdeal.Hand.ops_part26 (F := Ideal)) (n := 17) (by decide))) rfl rfl rfl (by decide) (by decide) (ha := ⟨by decide, rfl⟩) (hb := ⟨by decide, rfl⟩) (hy := ⟨by decide, rfl⟩)
  rw [hk, hr, ← c_main_v45__main_v144 hag hel, ← c_main_v204__main_v1262 hag hel]
  rfl

theorem c_main_v207__main_v1301 : StableHlo.after Cert.KernelIdeal.Hand.KOps (Cert.KernelIdeal.Hand.Wl (F := Ideal) m ρ c) (Proc.devRef .tc Cert.KernelIdeal.main_v207) = StableHlo.after (Cert.ReferenceIdeal.Hand.ops (F := Ideal)) (StableHlo.launchContents m' c) (Proc.devRef .tc Cert.ReferenceIdeal.main_v1301) := by
  have hk := StableHlo.Ascending.eq_binary Cert.KernelIdeal.Hand.KOps_asc (Cert.KernelIdeal.Hand.Wl m ρ c) (Cert.KernelIdeal.Hand.mem_KOps_st7 (Cert.KernelIdeal.Hand.mem_st_7 (List.getElem_mem (l := Cert.KernelIdeal.GenP.hostOps7 (F := Ideal)) (n := 20) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part26 (List.getElem_mem (l := Cert.ReferenceIdeal.Hand.ops_part26 (F := Ideal)) (n := 18) (by decide))) rfl rfl rfl (by decide) (by decide) (ha := ⟨by decide, rfl⟩) (hb := ⟨by decide, rfl⟩) (hy := ⟨by decide, rfl⟩)
  rw [hk, hr, ← c_main_v38__main_v137 hag hel, ← c_main_v204__main_v1262 hag hel]
  rfl

theorem c_main_v208__main_v1302 : StableHlo.after Cert.KernelIdeal.Hand.KOps (Cert.KernelIdeal.Hand.Wl (F := Ideal) m ρ c) (Proc.devRef .tc Cert.KernelIdeal.main_v208) = StableHlo.after (Cert.ReferenceIdeal.Hand.ops (F := Ideal)) (StableHlo.launchContents m' c) (Proc.devRef .tc Cert.ReferenceIdeal.main_v1302) := by
  have hk := StableHlo.Ascending.eq_unary Cert.KernelIdeal.Hand.KOps_asc (Cert.KernelIdeal.Hand.Wl m ρ c) (Cert.KernelIdeal.Hand.mem_KOps_st7 (Cert.KernelIdeal.Hand.mem_st_7 (List.getElem_mem (l := Cert.KernelIdeal.GenP.hostOps7 (F := Ideal)) (n := 21) (by decide)))) rfl rfl (by decide) (x := Cert.KernelIdeal.main_v201) (y := Cert.KernelIdeal.main_v208) (f := open Cert.KernelIdeal Cert.KernelIdeal.Gen in (extractStridedSlice S8x1 ![0, 0] · slices_S16x1_S8x1_0_0)) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part26 (List.getElem_mem (l := Cert.ReferenceIdeal.Hand.ops_part26 (F := Ideal)) (n := 19) (by decide))) rfl rfl (by decide) (x := Cert.ReferenceIdeal.main_v1259) (y := Cert.ReferenceIdeal.main_v1302) (f := open Cert.ReferenceIdeal Cert.ReferenceIdeal.Gen in (extractStridedSlice S8x1 ![0, 0] · slices_S16x1_S8x1_0_0)) (hx := ⟨by decide, rfl⟩) (hy := ⟨by decide, rfl⟩)
  rw [hk, hr, ← c_main_v201__main_v1259 hag hel]

theorem c_main_v209__main_v1303 : StableHlo.after Cert.KernelIdeal.Hand.KOps (Cert.KernelIdeal.Hand.Wl (F := Ideal) m ρ c) (Proc.devRef .tc Cert.KernelIdeal.main_v209) = StableHlo.after (Cert.ReferenceIdeal.Hand.ops (F := Ideal)) (StableHlo.launchContents m' c) (Proc.devRef .tc Cert.ReferenceIdeal.main_v1303) := by
  have hk := StableHlo.Ascending.eq_binary Cert.KernelIdeal.Hand.KOps_asc (Cert.KernelIdeal.Hand.Wl m ρ c) (Cert.KernelIdeal.Hand.mem_KOps_st7 (Cert.KernelIdeal.Hand.mem_st_7 (List.getElem_mem (l := Cert.KernelIdeal.GenP.hostOps7 (F := Ideal)) (n := 22) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part26 (List.getElem_mem (l := Cert.ReferenceIdeal.Hand.ops_part26 (F := Ideal)) (n := 20) (by decide))) rfl rfl rfl (by decide) (by decide) (ha := ⟨by decide, rfl⟩) (hb := ⟨by decide, rfl⟩) (hy := ⟨by decide, rfl⟩)
  rw [hk, hr, ← c_main_v206__main_v1300 hag hel, ← c_main_v208__main_v1302 hag hel]
  rfl

theorem c_main_v210__main_v1304 : StableHlo.after Cert.KernelIdeal.Hand.KOps (Cert.KernelIdeal.Hand.Wl (F := Ideal) m ρ c) (Proc.devRef .tc Cert.KernelIdeal.main_v210) = StableHlo.after (Cert.ReferenceIdeal.Hand.ops (F := Ideal)) (StableHlo.launchContents m' c) (Proc.devRef .tc Cert.ReferenceIdeal.main_v1304) := by
  have hk := StableHlo.Ascending.eq_unary Cert.KernelIdeal.Hand.KOps_asc (Cert.KernelIdeal.Hand.Wl m ρ c) (Cert.KernelIdeal.Hand.mem_KOps_st7 (Cert.KernelIdeal.Hand.mem_st_7 (List.getElem_mem (l := Cert.KernelIdeal.GenP.hostOps7 (F := Ideal)) (n := 23) (by decide)))) rfl rfl (by decide) (x := Cert.KernelIdeal.main_v201) (y := Cert.KernelIdeal.main_v210) (f := open Cert.KernelIdeal Cert.KernelIdeal.Gen in (extractStridedSlice S8x1 ![8, 0] · slices_S16x1_S8x1_8_0)) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part26 (List.getElem_mem (l := Cert.ReferenceIdeal.Hand.ops_part26 (F := Ideal)) (n := 21) (by decide))) rfl rfl (by decide) (x := Cert.ReferenceIdeal.main_v1259) (y := Cert.ReferenceIdeal.main_v1304) (f := open Cert.ReferenceIdeal Cert.ReferenceIdeal.Gen in (extractStridedSlice S8x1 ![8, 0] · slices_S16x1_S8x1_8_0)) (hx := ⟨by decide, rfl⟩) (hy := ⟨by decide, rfl⟩)
  rw [hk, hr, ← c_main_v201__main_v1259 hag hel]

theorem c_main_v211__main_v1305 : StableHlo.after Cert.KernelIdeal.Hand.KOps (Cert.KernelIdeal.Hand.Wl (F := Ideal) m ρ c) (Proc.devRef .tc Cert.KernelIdeal.main_v211) = StableHlo.after (Cert.ReferenceIdeal.Hand.ops (F := Ideal)) (StableHlo.launchContents m' c) (Proc.devRef .tc Cert.ReferenceIdeal.main_v1305) := by
  have hk := StableHlo.Ascending.eq_binary Cert.KernelIdeal.Hand.KOps_asc (Cert.KernelIdeal.Hand.Wl m ρ c) (Cert.KernelIdeal.Hand.mem_KOps_st7 (Cert.KernelIdeal.Hand.mem_st_7 (List.getElem_mem (l := Cert.KernelIdeal.GenP.hostOps7 (F := Ideal)) (n := 24) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part26 (List.getElem_mem (l := Cert.ReferenceIdeal.Hand.ops_part26 (F := Ideal)) (n := 22) (by decide))) rfl rfl rfl (by decide) (by decide) (ha := ⟨by decide, rfl⟩) (hb := ⟨by decide, rfl⟩) (hy := ⟨by decide, rfl⟩)
  rw [hk, hr, ← c_main_v207__main_v1301 hag hel, ← c_main_v210__main_v1304 hag hel]
  rfl

theorem c_main_v212__main_v1306 : StableHlo.after Cert.KernelIdeal.Hand.KOps (Cert.KernelIdeal.Hand.Wl (F := Ideal) m ρ c) (Proc.devRef .tc Cert.KernelIdeal.main_v212) = StableHlo.after (Cert.ReferenceIdeal.Hand.ops (F := Ideal)) (StableHlo.launchContents m' c) (Proc.devRef .tc Cert.ReferenceIdeal.main_v1306) := by
  have hk := StableHlo.Ascending.eq_unary Cert.KernelIdeal.Hand.KOps_asc (Cert.KernelIdeal.Hand.Wl m ρ c) (Cert.KernelIdeal.Hand.mem_KOps_st7 (Cert.KernelIdeal.Hand.mem_st_7 (List.getElem_mem (l := Cert.KernelIdeal.GenP.hostOps7 (F := Ideal)) (n := 25) (by decide)))) rfl rfl (by decide) (x := Cert.KernelIdeal.main_v211) (y := Cert.KernelIdeal.main_v212) (f := open Cert.KernelIdeal Cert.KernelIdeal.Gen in (transpose S1x2048 [1, 0] · transposes_S2048x1_S1x2048_1_0)) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part26 (List.getElem_mem (l := Cert.ReferenceIdeal.Hand.ops_part26 (F := Ideal)) (n := 23) (by decide))) rfl rfl (by decide) (x := Cert.ReferenceIdeal.main_v1305) (y := Cert.ReferenceIdeal.main_v1306) (f := open Cert.ReferenceIdeal Cert.ReferenceIdeal.Gen in (transpose S1x2048 [1, 0] · transposes_S2048x1_S1x2048_1_0)) (hx := ⟨by decide, rfl⟩) (hy := ⟨by decide, rfl⟩)
  rw [hk, hr, ← c_main_v211__main_v1305 hag hel]

theorem c_main_v213__main_v1307 : StableHlo.after Cert.KernelIdeal.Hand.KOps (Cert.KernelIdeal.Hand.Wl (F := Ideal) m ρ c) (Proc.devRef .tc Cert.KernelIdeal.main_v213) = StableHlo.after (Cert.ReferenceIdeal.Hand.ops (F := Ideal)) (StableHlo.launchContents m' c) (Proc.devRef .tc Cert.ReferenceIdeal.main_v1307) := by
  have hk := StableHlo.Ascending.eq_unary Cert.KernelIdeal.Hand.KOps_asc (Cert.KernelIdeal.Hand.Wl m ρ c) (Cert.KernelIdeal.Hand.mem_KOps_st7 (Cert.KernelIdeal.Hand.mem_st_7 (List.getElem_mem (l := Cert.KernelIdeal.GenP.hostOps7 (F := Ideal)) (n := 26) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part26 (List.getElem_mem (l := Cert.ReferenceIdeal.Hand.ops_part26 (F := Ideal)) (n := 24) (by decide))) rfl rfl (by decide) (hx := ⟨by decide, rfl⟩) (hy := ⟨by decide, rfl⟩)
  rw [hk, hr, ← c_main_v209__main_v1303 hag hel]

theorem c_main_v214__main_v1308 : StableHlo.after Cert.KernelIdeal.Hand.KOps (Cert.KernelIdeal.Hand.Wl (F := Ideal) m ρ c) (Proc.devRef .tc Cert.KernelIdeal.main_v214) = StableHlo.after (Cert.ReferenceIdeal.Hand.ops (F := Ideal)) (StableHlo.launchContents m' c) (Proc.devRef .tc Cert.ReferenceIdeal.main_v1308) := by
  have hk := StableHlo.Ascending.eq_unary Cert.KernelIdeal.Hand.KOps_asc (Cert.KernelIdeal.Hand.Wl m ρ c) (Cert.KernelIdeal.Hand.mem_KOps_st7 (Cert.KernelIdeal.Hand.mem_st_7 (List.getElem_mem (l := Cert.KernelIdeal.GenP.hostOps7 (F := Ideal)) (n := 27) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part26 (List.getElem_mem (l := Cert.ReferenceIdeal.Hand.ops_part26 (F := Ideal)) (n := 25) (by decide))) rfl rfl (by decide) (hx := ⟨by decide, rfl⟩) (hy := ⟨by decide, rfl⟩)
  rw [hk, hr, ← c_main_v212__main_v1306 hag hel]

theorem c_main_v215__main_v1309 : StableHlo.after Cert.KernelIdeal.Hand.KOps (Cert.KernelIdeal.Hand.Wl (F := Ideal) m ρ c) (Proc.devRef .tc Cert.KernelIdeal.main_v215) = StableHlo.after (Cert.ReferenceIdeal.Hand.ops (F := Ideal)) (StableHlo.launchContents m' c) (Proc.devRef .tc Cert.ReferenceIdeal.main_v1309) := by
  have hk := StableHlo.Ascending.eq_binary Cert.KernelIdeal.Hand.KOps_asc (Cert.KernelIdeal.Hand.Wl m ρ c) (Cert.KernelIdeal.Hand.mem_KOps_st7 (Cert.KernelIdeal.Hand.mem_st_7 (List.getElem_mem (l := Cert.KernelIdeal.GenP.hostOps7 (F := Ideal)) (n := 28) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part26 (List.getElem_mem (l := Cert.ReferenceIdeal.Hand.ops_part26 (F := Ideal)) (n := 26) (by decide))) rfl rfl rfl (by decide) (by decide) (ha := ⟨by decide, rfl⟩) (hb := ⟨by decide, rfl⟩) (hy := ⟨by decide, rfl⟩)
  rw [hk, hr, ← c_main_v213__main_v1307 hag hel, ← c_main_v214__main_v1308 hag hel]

theorem c_main_cst_31__main_cst_275 : StableHlo.after Cert.KernelIdeal.Hand.KOps (Cert.KernelIdeal.Hand.Wl (F := Ideal) m ρ c) (Proc.devRef .tc Cert.KernelIdeal.main_cst_31) = StableHlo.after (Cert.ReferenceIdeal.Hand.ops (F := Ideal)) (StableHlo.launchContents m' c) (Proc.devRef .tc Cert.ReferenceIdeal.main_cst_275) := by
  have hk := StableHlo.Ascending.eq_nullary Cert.KernelIdeal.Hand.KOps_asc (Cert.KernelIdeal.Hand.Wl m ρ c) (Cert.KernelIdeal.Hand.mem_KOps_st7 (Cert.KernelIdeal.Hand.mem_st_7 (List.getElem_mem (l := Cert.KernelIdeal.GenP.hostOps7 (F := Ideal)) (n := 29) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part26 (List.getElem_mem (l := Cert.ReferenceIdeal.Hand.ops_part26 (F := Ideal)) (n := 27) (by decide))) rfl (hy := ⟨by decide, rfl⟩)
  rw [hk, hr]

theorem c_main_call1_cst__main_call57_cst : StableHlo.after Cert.KernelIdeal.Hand.KOps (Cert.KernelIdeal.Hand.Wl (F := Ideal) m ρ c) (Proc.devRef .tc Cert.KernelIdeal.main_call1_cst) = StableHlo.after (Cert.ReferenceIdeal.Hand.ops (F := Ideal)) (StableHlo.launchContents m' c) (Proc.devRef .tc Cert.ReferenceIdeal.main_call57_cst) := by
  have hk := StableHlo.Ascending.eq_nullary Cert.KernelIdeal.Hand.KOps_asc (Cert.KernelIdeal.Hand.Wl m ρ c) (Cert.KernelIdeal.Hand.mem_KOps_st7 (Cert.KernelIdeal.Hand.mem_st_7_1 (List.getElem_mem (l := Cert.KernelIdeal.GenP.hostOps7_1 (F := Ideal)) (n := 0) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part26 (List.getElem_mem (l := Cert.ReferenceIdeal.Hand.ops_part26 (F := Ideal)) (n := 28) (by decide))) rfl (hy := ⟨by decide, rfl⟩)
  rw [hk, hr]

theorem c_main_call1_v0__main_call57_v0 : StableHlo.after Cert.KernelIdeal.Hand.KOps (Cert.KernelIdeal.Hand.Wl (F := Ideal) m ρ c) (Proc.devRef .tc Cert.KernelIdeal.main_call1_v0) = StableHlo.after (Cert.ReferenceIdeal.Hand.ops (F := Ideal)) (StableHlo.launchContents m' c) (Proc.devRef .tc Cert.ReferenceIdeal.main_call57_v0) := by
  have hk := StableHlo.Ascending.eq_unary Cert.KernelIdeal.Hand.KOps_asc (Cert.KernelIdeal.Hand.Wl m ρ c) (Cert.KernelIdeal.Hand.mem_KOps_st7 (Cert.KernelIdeal.Hand.mem_st_7_1 (List.getElem_mem (l := Cert.KernelIdeal.GenP.hostOps7_1 (F := Ideal)) (n := 1) (by decide)))) rfl rfl (by decide) (x := Cert.KernelIdeal.main_call1_cst) (y := Cert.KernelIdeal.main_call1_v0) (f := open Cert.KernelIdeal Cert.KernelIdeal.Gen in (broadcastInDim S2048x2048 ![] bcast_S_S2048x2048)) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part26 (List.getElem_mem (l := Cert.ReferenceIdeal.Hand.ops_part26 (F := Ideal)) (n := 29) (by decide))) rfl rfl (by decide) (x := Cert.ReferenceIdeal.main_call57_cst) (y := Cert.ReferenceIdeal.main_call57_v0) (f := open Cert.ReferenceIdeal Cert.ReferenceIdeal.Gen in (broadcastInDim S2048x2048 ![] bcast_S_S2048x2048)) (hx := ⟨by decide, rfl⟩) (hy := ⟨by decide, rfl⟩)
  rw [hk, hr, ← c_main_call1_cst__main_call57_cst hag hel]

theorem c_main_call1_v1__main_call57_v1 : StableHlo.after Cert.KernelIdeal.Hand.KOps (Cert.KernelIdeal.Hand.Wl (F := Ideal) m ρ c) (Proc.devRef .tc Cert.KernelIdeal.main_call1_v1) = StableHlo.after (Cert.ReferenceIdeal.Hand.ops (F := Ideal)) (StableHlo.launchContents m' c) (Proc.devRef .tc Cert.ReferenceIdeal.main_call57_v1) := by
  have hk := StableHlo.Ascending.eq_binary Cert.KernelIdeal.Hand.KOps_asc (Cert.KernelIdeal.Hand.Wl m ρ c) (Cert.KernelIdeal.Hand.mem_KOps_st7 (Cert.KernelIdeal.Hand.mem_st_7_1 (List.getElem_mem (l := Cert.KernelIdeal.GenP.hostOps7_1 (F := Ideal)) (n := 2) (by decide)))) rfl rfl rfl (by decide) (by decide) (a := Cert.KernelIdeal.main_v215) (b := Cert.KernelIdeal.main_call1_v0) (y := Cert.KernelIdeal.main_call1_v1) (f := open Cert.KernelIdeal Cert.KernelIdeal.Gen in (cmpf (F := Ideal) .oge)) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part26 (List.getElem_mem (l := Cert.ReferenceIdeal.Hand.ops_part26 (F := Ideal)) (n := 30) (by decide))) rfl rfl rfl (by decide) (by decide) (a := Cert.ReferenceIdeal.main_v1309) (b := Cert.ReferenceIdeal.main_call57_v0) (y := Cert.ReferenceIdeal.main_call57_v1) (f := open Cert.ReferenceIdeal Cert.ReferenceIdeal.Gen in (cmpf (F := Ideal) .oge)) (ha := ⟨by decide, rfl⟩) (hb := ⟨by decide, rfl⟩) (hy := ⟨by decide, rfl⟩)
  rw [hk, hr, ← c_main_v215__main_v1309 hag hel, ← c_main_call1_v0__main_call57_v0 hag hel]

theorem c_main_call1_v2__main_call57_v2 : StableHlo.after Cert.KernelIdeal.Hand.KOps (Cert.KernelIdeal.Hand.Wl (F := Ideal) m ρ c) (Proc.devRef .tc Cert.KernelIdeal.main_call1_v2) = StableHlo.after (Cert.ReferenceIdeal.Hand.ops (F := Ideal)) (StableHlo.launchContents m' c) (Proc.devRef .tc Cert.ReferenceIdeal.main_call57_v2) := by
  have hk := StableHlo.Ascending.eq_unary Cert.KernelIdeal.Hand.KOps_asc (Cert.KernelIdeal.Hand.Wl m ρ c) (Cert.KernelIdeal.Hand.mem_KOps_st7 (Cert.KernelIdeal.Hand.mem_st_7_1 (List.getElem_mem (l := Cert.KernelIdeal.GenP.hostOps7_1 (F := Ideal)) (n := 3) (by decide)))) rfl rfl (by decide) (x := Cert.KernelIdeal.main_cst_31) (y := Cert.KernelIdeal.main_call1_v2) (f := open Cert.KernelIdeal Cert.KernelIdeal.Gen in id) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part26 (List.getElem_mem (l := Cert.ReferenceIdeal.Hand.ops_part26 (F := Ideal)) (n := 31) (by decide))) rfl rfl (by decide) (x := Cert.ReferenceIdeal.main_cst_275) (y := Cert.ReferenceIdeal.main_call57_v2) (f := open Cert.ReferenceIdeal Cert.ReferenceIdeal.Gen in id) (hx := ⟨by decide, rfl⟩) (hy := ⟨by decide, rfl⟩)
  rw [hk, hr, ← c_main_cst_31__main_cst_275 hag hel]

theorem c_main_call1_v3__main_call57_v3 : StableHlo.after Cert.KernelIdeal.Hand.KOps (Cert.KernelIdeal.Hand.Wl (F := Ideal) m ρ c) (Proc.devRef .tc Cert.KernelIdeal.main_call1_v3) = StableHlo.after (Cert.ReferenceIdeal.Hand.ops (F := Ideal)) (StableHlo.launchContents m' c) (Proc.devRef .tc Cert.ReferenceIdeal.main_call57_v3) := by
  have hk := StableHlo.Ascending.eq_unary Cert.KernelIdeal.Hand.KOps_asc (Cert.KernelIdeal.Hand.Wl m ρ c) (Cert.KernelIdeal.Hand.mem_KOps_st7 (Cert.KernelIdeal.Hand.mem_st_7_1 (List.getElem_mem (l := Cert.KernelIdeal.GenP.hostOps7_1 (F := Ideal)) (n := 4) (by decide)))) rfl rfl (by decide) (x := Cert.KernelIdeal.main_call1_v2) (y := Cert.KernelIdeal.main_call1_v3) (f := open Cert.KernelIdeal Cert.KernelIdeal.Gen in (broadcastInDim S2048x2048 ![] bcast_S_S2048x2048)) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part26 (List.getElem_mem (l := Cert.ReferenceIdeal.Hand.ops_part26 (F := Ideal)) (n := 32) (by decide))) rfl rfl (by decide) (x := Cert.ReferenceIdeal.main_call57_v2) (y := Cert.ReferenceIdeal.main_call57_v3) (f := open Cert.ReferenceIdeal Cert.ReferenceIdeal.Gen in (broadcastInDim S2048x2048 ![] bcast_S_S2048x2048)) (hx := ⟨by decide, rfl⟩) (hy := ⟨by decide, rfl⟩)
  rw [hk, hr, ← c_main_call1_v2__main_call57_v2 hag hel]

theorem c_main_call1_v4__main_call57_v4 : StableHlo.after Cert.KernelIdeal.Hand.KOps (Cert.KernelIdeal.Hand.Wl (F := Ideal) m ρ c) (Proc.devRef .tc Cert.KernelIdeal.main_call1_v4) = StableHlo.after (Cert.ReferenceIdeal.Hand.ops (F := Ideal)) (StableHlo.launchContents m' c) (Proc.devRef .tc Cert.ReferenceIdeal.main_call57_v4) := by
  have hk := StableHlo.Ascending.eq_binary Cert.KernelIdeal.Hand.KOps_asc (Cert.KernelIdeal.Hand.Wl m ρ c) (Cert.KernelIdeal.Hand.mem_KOps_st7 (Cert.KernelIdeal.Hand.mem_st_7_1 (List.getElem_mem (l := Cert.KernelIdeal.GenP.hostOps7_1 (F := Ideal)) (n := 5) (by decide)))) rfl rfl rfl (by decide) (by decide) (a := Cert.KernelIdeal.main_call1_v3) (b := Cert.KernelIdeal.main_v215) (y := Cert.KernelIdeal.main_call1_v4) (f := open Cert.KernelIdeal Cert.KernelIdeal.Gen in mulf (F := Ideal)) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part26 (List.getElem_mem (l := Cert.ReferenceIdeal.Hand.ops_part26 (F := Ideal)) (n := 33) (by decide))) rfl rfl rfl (by decide) (by decide) (a := Cert.ReferenceIdeal.main_call57_v3) (b := Cert.ReferenceIdeal.main_v1309) (y := Cert.ReferenceIdeal.main_call57_v4) (f := open Cert.ReferenceIdeal Cert.ReferenceIdeal.Gen in mulf (F := Ideal)) (ha := ⟨by decide, rfl⟩) (hb := ⟨by decide, rfl⟩) (hy := ⟨by decide, rfl⟩)
  rw [hk, hr, ← c_main_call1_v3__main_call57_v3 hag hel, ← c_main_v215__main_v1309 hag hel]

theorem c_main_v216__main_v1310 : StableHlo.after Cert.KernelIdeal.Hand.KOps (Cert.KernelIdeal.Hand.Wl (F := Ideal) m ρ c) (Proc.devRef .tc Cert.KernelIdeal.main_v216) = StableHlo.after (Cert.ReferenceIdeal.Hand.ops (F := Ideal)) (StableHlo.launchContents m' c) (Proc.devRef .tc Cert.ReferenceIdeal.main_v1310) := by
  have hk := StableHlo.Ascending.eq_ternary Cert.KernelIdeal.Hand.KOps_asc (Cert.KernelIdeal.Hand.Wl m ρ c) (Cert.KernelIdeal.Hand.mem_KOps_st7 (Cert.KernelIdeal.Hand.mem_st_7_1 (List.getElem_mem (l := Cert.KernelIdeal.GenP.hostOps7_1 (F := Ideal)) (n := 6) (by decide)))) rfl rfl rfl rfl (by decide) (by decide) (by decide) (c := Cert.KernelIdeal.main_call1_v1) (a := Cert.KernelIdeal.main_v215) (b := Cert.KernelIdeal.main_call1_v4) (y := Cert.KernelIdeal.main_v216) (f := (select : (⟨Cert.KernelIdeal.S2048x2048, .i1⟩ : BufTy).Contents (Elt Ideal) → (⟨Cert.KernelIdeal.S2048x2048, .f32⟩ : BufTy).Contents (Elt Ideal) → (⟨Cert.KernelIdeal.S2048x2048, .f32⟩ : BufTy).Contents (Elt Ideal) → (⟨Cert.KernelIdeal.S2048x2048, .f32⟩ : BufTy).Contents (Elt Ideal))) (hc := ⟨by decide, rfl⟩) (ha := ⟨by decide, rfl⟩) (hb := ⟨by decide, rfl⟩) (hy := ⟨by decide, rfl⟩)
  have hr := StableHlo.Ascending.eq_ternary (Cert.ReferenceIdeal.Hand.ops_asc (F := Ideal)) (StableHlo.launchContents m' c) (Cert.ReferenceIdeal.Hand.mem_ops_part26 (List.getElem_mem (l := Cert.ReferenceIdeal.Hand.ops_part26 (F := Ideal)) (n := 34) (by decide))) rfl rfl rfl rfl (by decide) (by decide) (by decide) (c := Cert.ReferenceIdeal.main_call57_v1) (a := Cert.ReferenceIdeal.main_v1309) (b := Cert.ReferenceIdeal.main_call57_v4) (y := Cert.ReferenceIdeal.main_v1310) (f := (select : (⟨Cert.ReferenceIdeal.S2048x2048, .i1⟩ : BufTy).Contents (Elt Ideal) → (⟨Cert.ReferenceIdeal.S2048x2048, .f32⟩ : BufTy).Contents (Elt Ideal) → (⟨Cert.ReferenceIdeal.S2048x2048, .f32⟩ : BufTy).Contents (Elt Ideal) → (⟨Cert.ReferenceIdeal.S2048x2048, .f32⟩ : BufTy).Contents (Elt Ideal))) (hc := ⟨by decide, rfl⟩) (ha := ⟨by decide, rfl⟩) (hb := ⟨by decide, rfl⟩) (hy := ⟨by decide, rfl⟩)
  rw [hk, hr, ← c_main_call1_v1__main_call57_v1 hag hel, ← c_main_v215__main_v1309 hag hel, ← c_main_call1_v4__main_call57_v4 hag hel]

theorem c_main_cst_32__main_cst_276 : StableHlo.after Cert.KernelIdeal.Hand.KOps (Cert.KernelIdeal.Hand.Wl (F := Ideal) m ρ c) (Proc.devRef .tc Cert.KernelIdeal.main_cst_32) = StableHlo.after (Cert.ReferenceIdeal.Hand.ops (F := Ideal)) (StableHlo.launchContents m' c) (Proc.devRef .tc Cert.ReferenceIdeal.main_cst_276) := by
  have hk := StableHlo.Ascending.eq_nullary Cert.KernelIdeal.Hand.KOps_asc (Cert.KernelIdeal.Hand.Wl m ρ c) (Cert.KernelIdeal.Hand.mem_KOps_st7 (Cert.KernelIdeal.Hand.mem_st_7_2 (List.getElem_mem (l := Cert.KernelIdeal.GenP.hostOps7_2 (F := Ideal)) (n := 0) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part26 (List.getElem_mem (l := Cert.ReferenceIdeal.Hand.ops_part26 (F := Ideal)) (n := 35) (by decide))) rfl (hy := ⟨by decide, rfl⟩)
  rw [hk, hr]

theorem c_main_v217__main_v1311 : StableHlo.after Cert.KernelIdeal.Hand.KOps (Cert.KernelIdeal.Hand.Wl (F := Ideal) m ρ c) (Proc.devRef .tc Cert.KernelIdeal.main_v217) = StableHlo.after (Cert.ReferenceIdeal.Hand.ops (F := Ideal)) (StableHlo.launchContents m' c) (Proc.devRef .tc Cert.ReferenceIdeal.main_v1311) := by
  have hk := StableHlo.Ascending.eq_binary Cert.KernelIdeal.Hand.KOps_asc (Cert.KernelIdeal.Hand.Wl m ρ c) (Cert.KernelIdeal.Hand.mem_KOps_st7 (Cert.KernelIdeal.Hand.mem_st_7_2 (List.getElem_mem (l := Cert.KernelIdeal.GenP.hostOps7_2 (F := Ideal)) (n := 1) (by decide)))) rfl rfl rfl (by decide) (by decide) (a := Cert.KernelIdeal.main_v196) (b := Cert.KernelIdeal.main_cst_32) (y := Cert.KernelIdeal.main_v217) (f := open Cert.KernelIdeal Cert.KernelIdeal.Gen in (fun x v => Host.reduce (FloatOps.minimumf (F := Ideal)) x v reducesTo_S2048x1_S_d0_1 h_S_)) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part26 (List.getElem_mem (l := Cert.ReferenceIdeal.Hand.ops_part26 (F := Ideal)) (n := 36) (by decide))) rfl rfl rfl (by decide) (by decide) (a := Cert.ReferenceIdeal.main_v1294) (b := Cert.ReferenceIdeal.main_cst_276) (y := Cert.ReferenceIdeal.main_v1311) (f := open Cert.ReferenceIdeal Cert.ReferenceIdeal.Gen in (fun x v => Host.reduce (FloatOps.minimumf (F := Ideal)) x v reducesTo_S2048x1_S_d0_1 h_S_)) (ha := ⟨by decide, rfl⟩) (hb := ⟨by decide, rfl⟩) (hy := ⟨by decide, rfl⟩)
  rw [hk, hr, ← c_main_v196__main_v1294 hag hel, ← c_main_cst_32__main_cst_276 hag hel]

theorem c_main_v218__main_v1312 : StableHlo.after Cert.KernelIdeal.Hand.KOps (Cert.KernelIdeal.Hand.Wl (F := Ideal) m ρ c) (Proc.devRef .tc Cert.KernelIdeal.main_v218) = StableHlo.after (Cert.ReferenceIdeal.Hand.ops (F := Ideal)) (StableHlo.launchContents m' c) (Proc.devRef .tc Cert.ReferenceIdeal.main_v1312) := by
  have hk := StableHlo.Ascending.eq_unary Cert.KernelIdeal.Hand.KOps_asc (Cert.KernelIdeal.Hand.Wl m ρ c) (Cert.KernelIdeal.Hand.mem_KOps_st7 (Cert.KernelIdeal.Hand.mem_st_7_2 (List.getElem_mem (l := Cert.KernelIdeal.GenP.hostOps7_2 (F := Ideal)) (n := 2) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part26 (List.getElem_mem (l := Cert.ReferenceIdeal.Hand.ops_part26 (F := Ideal)) (n := 37) (by decide))) rfl rfl (by decide) (hx := ⟨by decide, rfl⟩) (hy := ⟨by decide, rfl⟩)
  rw [hk, hr, ← c_main_v217__main_v1311 hag hel]

theorem c_main_v219__main_v1313 : StableHlo.after Cert.KernelIdeal.Hand.KOps (Cert.KernelIdeal.Hand.Wl (F := Ideal) m ρ c) (Proc.devRef .tc Cert.KernelIdeal.main_v219) = StableHlo.after (Cert.ReferenceIdeal.Hand.ops (F := Ideal)) (StableHlo.launchContents m' c) (Proc.devRef .tc Cert.ReferenceIdeal.main_v1313) := by
  have hk := StableHlo.Ascending.eq_binary Cert.KernelIdeal.Hand.KOps_asc (Cert.KernelIdeal.Hand.Wl m ρ c) (Cert.KernelIdeal.Hand.mem_KOps_st7 (Cert.KernelIdeal.Hand.mem_st_7_2 (List.getElem_mem (l := Cert.KernelIdeal.GenP.hostOps7_2 (F := Ideal)) (n := 3) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part26 (List.getElem_mem (l := Cert.ReferenceIdeal.Hand.ops_part26 (F := Ideal)) (n := 38) (by decide))) rfl rfl rfl (by decide) (by decide) (ha := ⟨by decide, rfl⟩) (hb := ⟨by decide, rfl⟩) (hy := ⟨by decide, rfl⟩)
  rw [hk, hr, ← c_main_v196__main_v1294 hag hel, ← c_main_v218__main_v1312 hag hel]

theorem c_main_cst_33__main_cst_277 : StableHlo.after Cert.KernelIdeal.Hand.KOps (Cert.KernelIdeal.Hand.Wl (F := Ideal) m ρ c) (Proc.devRef .tc Cert.KernelIdeal.main_cst_33) = StableHlo.after (Cert.ReferenceIdeal.Hand.ops (F := Ideal)) (StableHlo.launchContents m' c) (Proc.devRef .tc Cert.ReferenceIdeal.main_cst_277) := by
  have hk := StableHlo.Ascending.eq_nullary Cert.KernelIdeal.Hand.KOps_asc (Cert.KernelIdeal.Hand.Wl m ρ c) (Cert.KernelIdeal.Hand.mem_KOps_st7 (Cert.KernelIdeal.Hand.mem_st_7_2 (List.getElem_mem (l := Cert.KernelIdeal.GenP.hostOps7_2 (F := Ideal)) (n := 4) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part26 (List.getElem_mem (l := Cert.ReferenceIdeal.Hand.ops_part26 (F := Ideal)) (n := 39) (by decide))) rfl (hy := ⟨by decide, rfl⟩)
  rw [hk, hr]

theorem c_main_v220__main_v1314 : StableHlo.after Cert.KernelIdeal.Hand.KOps (Cert.KernelIdeal.Hand.Wl (F := Ideal) m ρ c) (Proc.devRef .tc Cert.KernelIdeal.main_v220) = StableHlo.after (Cert.ReferenceIdeal.Hand.ops (F := Ideal)) (StableHlo.launchContents m' c) (Proc.devRef .tc Cert.ReferenceIdeal.main_v1314) := by
  have hk := StableHlo.Ascending.eq_binary Cert.KernelIdeal.Hand.KOps_asc (Cert.KernelIdeal.Hand.Wl m ρ c) (Cert.KernelIdeal.Hand.mem_KOps_st7 (Cert.KernelIdeal.Hand.mem_st_7_2 (List.getElem_mem (l := Cert.KernelIdeal.GenP.hostOps7_2 (F := Ideal)) (n := 5) (by decide)))) rfl rfl rfl (by decide) (by decide) (a := Cert.KernelIdeal.main_v196) (b := Cert.KernelIdeal.main_cst_33) (y := Cert.KernelIdeal.main_v220) (f := open Cert.KernelIdeal Cert.KernelIdeal.Gen in (fun x v => Host.reduce (FloatOps.maximumf (F := Ideal)) x v reducesTo_S2048x1_S_d0_1 h_S_)) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part26 (List.getElem_mem (l := Cert.ReferenceIdeal.Hand.ops_part26 (F := Ideal)) (n := 40) (by decide))) rfl rfl rfl (by decide) (by decide) (a := Cert.ReferenceIdeal.main_v1294) (b := Cert.ReferenceIdeal.main_cst_277) (y := Cert.ReferenceIdeal.main_v1314) (f := open Cert.ReferenceIdeal Cert.ReferenceIdeal.Gen in (fun x v => Host.reduce (FloatOps.maximumf (F := Ideal)) x v reducesTo_S2048x1_S_d0_1 h_S_)) (ha := ⟨by decide, rfl⟩) (hb := ⟨by decide, rfl⟩) (hy := ⟨by decide, rfl⟩)
  rw [hk, hr, ← c_main_v196__main_v1294 hag hel, ← c_main_cst_33__main_cst_277 hag hel]

theorem c_main_cst_34__main_cst_278 : StableHlo.after Cert.KernelIdeal.Hand.KOps (Cert.KernelIdeal.Hand.Wl (F := Ideal) m ρ c) (Proc.devRef .tc Cert.KernelIdeal.main_cst_34) = StableHlo.after (Cert.ReferenceIdeal.Hand.ops (F := Ideal)) (StableHlo.launchContents m' c) (Proc.devRef .tc Cert.ReferenceIdeal.main_cst_278) := by
  have hk := StableHlo.Ascending.eq_nullary Cert.KernelIdeal.Hand.KOps_asc (Cert.KernelIdeal.Hand.Wl m ρ c) (Cert.KernelIdeal.Hand.mem_KOps_st7 (Cert.KernelIdeal.Hand.mem_st_7_2 (List.getElem_mem (l := Cert.KernelIdeal.GenP.hostOps7_2 (F := Ideal)) (n := 6) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part26 (List.getElem_mem (l := Cert.ReferenceIdeal.Hand.ops_part26 (F := Ideal)) (n := 41) (by decide))) rfl (hy := ⟨by decide, rfl⟩)
  rw [hk, hr]

theorem c_main_v221__main_v1315 : StableHlo.after Cert.KernelIdeal.Hand.KOps (Cert.KernelIdeal.Hand.Wl (F := Ideal) m ρ c) (Proc.devRef .tc Cert.KernelIdeal.main_v221) = StableHlo.after (Cert.ReferenceIdeal.Hand.ops (F := Ideal)) (StableHlo.launchContents m' c) (Proc.devRef .tc Cert.ReferenceIdeal.main_v1315) := by
  have hk := StableHlo.Ascending.eq_binary Cert.KernelIdeal.Hand.KOps_asc (Cert.KernelIdeal.Hand.Wl m ρ c) (Cert.KernelIdeal.Hand.mem_KOps_st7 (Cert.KernelIdeal.Hand.mem_st_7_2 (List.getElem_mem (l := Cert.KernelIdeal.GenP.hostOps7_2 (F := Ideal)) (n := 7) (by decide)))) rfl rfl rfl (by decide) (by decide) (a := Cert.KernelIdeal.main_v196) (b := Cert.KernelIdeal.main_cst_34) (y := Cert.KernelIdeal.main_v221) (f := open Cert.KernelIdeal Cert.KernelIdeal.Gen in (fun x v => Host.reduce (FloatOps.minimumf (F := Ideal)) x v reducesTo_S2048x1_S_d0_1 h_S_)) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part26 (List.getElem_mem (l := Cert.ReferenceIdeal.Hand.ops_part26 (F := Ideal)) (n := 42) (by decide))) rfl rfl rfl (by decide) (by decide) (a := Cert.ReferenceIdeal.main_v1294) (b := Cert.ReferenceIdeal.main_cst_278) (y := Cert.ReferenceIdeal.main_v1315) (f := open Cert.ReferenceIdeal Cert.ReferenceIdeal.Gen in (fun x v => Host.reduce (FloatOps.minimumf (F := Ideal)) x v reducesTo_S2048x1_S_d0_1 h_S_)) (ha := ⟨by decide, rfl⟩) (hb := ⟨by decide, rfl⟩) (hy := ⟨by decide, rfl⟩)
  rw [hk, hr, ← c_main_v196__main_v1294 hag hel, ← c_main_cst_34__main_cst_278 hag hel]

theorem c_main_v222__main_v1316 : StableHlo.after Cert.KernelIdeal.Hand.KOps (Cert.KernelIdeal.Hand.Wl (F := Ideal) m ρ c) (Proc.devRef .tc Cert.KernelIdeal.main_v222) = StableHlo.after (Cert.ReferenceIdeal.Hand.ops (F := Ideal)) (StableHlo.launchContents m' c) (Proc.devRef .tc Cert.ReferenceIdeal.main_v1316) := by
  have hk := StableHlo.Ascending.eq_binary Cert.KernelIdeal.Hand.KOps_asc (Cert.KernelIdeal.Hand.Wl m ρ c) (Cert.KernelIdeal.Hand.mem_KOps_st7 (Cert.KernelIdeal.Hand.mem_st_7_2 (List.getElem_mem (l := Cert.KernelIdeal.GenP.hostOps7_2 (F := Ideal)) (n := 8) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part26 (List.getElem_mem (l := Cert.ReferenceIdeal.Hand.ops_part26 (F := Ideal)) (n := 43) (by decide))) rfl rfl rfl (by decide) (by decide) (ha := ⟨by decide, rfl⟩) (hb := ⟨by decide, rfl⟩) (hy := ⟨by decide, rfl⟩)
  rw [hk, hr, ← c_main_v220__main_v1314 hag hel, ← c_main_v221__main_v1315 hag hel]

theorem c_main_v223__main_v1317 : StableHlo.after Cert.KernelIdeal.Hand.KOps (Cert.KernelIdeal.Hand.Wl (F := Ideal) m ρ c) (Proc.devRef .tc Cert.KernelIdeal.main_v223) = StableHlo.after (Cert.ReferenceIdeal.Hand.ops (F := Ideal)) (StableHlo.launchContents m' c) (Proc.devRef .tc Cert.ReferenceIdeal.main_v1317) := by
  have hk := StableHlo.Ascending.eq_unary Cert.KernelIdeal.Hand.KOps_asc (Cert.KernelIdeal.Hand.Wl m ρ c) (Cert.KernelIdeal.Hand.mem_KOps_st7 (Cert.KernelIdeal.Hand.mem_st_7_2 (List.getElem_mem (l := Cert.KernelIdeal.GenP.hostOps7_2 (F := Ideal)) (n := 9) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part26 (List.getElem_mem (l := Cert.ReferenceIdeal.Hand.ops_part26 (F := Ideal)) (n := 44) (by decide))) rfl rfl (by decide) (hx := ⟨by decide, rfl⟩) (hy := ⟨by decide, rfl⟩)
  rw [hk, hr, ← c_main_v222__main_v1316 hag hel]

theorem c_main_v224__main_v1318 : StableHlo.after Cert.KernelIdeal.Hand.KOps (Cert.KernelIdeal.Hand.Wl (F := Ideal) m ρ c) (Proc.devRef .tc Cert.KernelIdeal.main_v224) = StableHlo.after (Cert.ReferenceIdeal.Hand.ops (F := Ideal)) (StableHlo.launchContents m' c) (Proc.devRef .tc Cert.ReferenceIdeal.main_v1318) := by
  have hk := StableHlo.Ascending.eq_binary Cert.KernelIdeal.Hand.KOps_asc (Cert.KernelIdeal.Hand.Wl m ρ c) (Cert.KernelIdeal.Hand.mem_KOps_st7 (Cert.KernelIdeal.Hand.mem_st_7_2 (List.getElem_mem (l := Cert.KernelIdeal.GenP.hostOps7_2 (F := Ideal)) (n := 10) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part26 (List.getElem_mem (l := Cert.ReferenceIdeal.Hand.ops_part26 (F := Ideal)) (n := 45) (by decide))) rfl rfl rfl (by decide) (by decide) (ha := ⟨by decide, rfl⟩) (hb := ⟨by decide, rfl⟩) (hy := ⟨by decide, rfl⟩)
  rw [hk, hr, ← c_main_v219__main_v1313 hag hel, ← c_main_v223__main_v1317 hag hel]

theorem c_main_cst_35__main_cst_279 : StableHlo.after Cert.KernelIdeal.Hand.KOps (Cert.KernelIdeal.Hand.Wl (F := Ideal) m ρ c) (Proc.devRef .tc Cert.KernelIdeal.main_cst_35) = StableHlo.after (Cert.ReferenceIdeal.Hand.ops (F := Ideal)) (StableHlo.launchContents m' c) (Proc.devRef .tc Cert.ReferenceIdeal.main_cst_279) := by
  have hk := StableHlo.Ascending.eq_nullary Cert.KernelIdeal.Hand.KOps_asc (Cert.KernelIdeal.Hand.Wl m ρ c) (Cert.KernelIdeal.Hand.mem_KOps_st7 (Cert.KernelIdeal.Hand.mem_st_7_2 (List.getElem_mem (l := Cert.KernelIdeal.GenP.hostOps7_2 (F := Ideal)) (n := 11) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part26 (List.getElem_mem (l := Cert.ReferenceIdeal.Hand.ops_part26 (F := Ideal)) (n := 46) (by decide))) rfl (hy := ⟨by decide, rfl⟩)
  rw [hk, hr]

theorem c_main_v225__main_v1319 : StableHlo.after Cert.KernelIdeal.Hand.KOps (Cert.KernelIdeal.Hand.Wl (F := Ideal) m ρ c) (Proc.devRef .tc Cert.KernelIdeal.main_v225) = StableHlo.after (Cert.ReferenceIdeal.Hand.ops (F := Ideal)) (StableHlo.launchContents m' c) (Proc.devRef .tc Cert.ReferenceIdeal.main_v1319) := by
  have hk := StableHlo.Ascending.eq_binary Cert.KernelIdeal.Hand.KOps_asc (Cert.KernelIdeal.Hand.Wl m ρ c) (Cert.KernelIdeal.Hand.mem_KOps_st7 (Cert.KernelIdeal.Hand.mem_st_7_2 (List.getElem_mem (l := Cert.KernelIdeal.GenP.hostOps7_2 (F := Ideal)) (n := 12) (by decide)))) rfl rfl rfl (by decide) (by decide) (a := Cert.KernelIdeal.main_v216) (b := Cert.KernelIdeal.main_cst_35) (y := Cert.KernelIdeal.main_v225) (f := open Cert.KernelIdeal Cert.KernelIdeal.Gen in (fun x v => Host.reduce (FloatOps.maximumf (F := Ideal)) x v reducesTo_S2048x2048_S_d0_1 h_S_)) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part26 (List.getElem_mem (l := Cert.ReferenceIdeal.Hand.ops_part26 (F := Ideal)) (n := 47) (by decide))) rfl rfl rfl (by decide) (by decide) (a := Cert.ReferenceIdeal.main_v1310) (b := Cert.ReferenceIdeal.main_cst_279) (y := Cert.ReferenceIdeal.main_v1319) (f := open Cert.ReferenceIdeal Cert.ReferenceIdeal.Gen in (fun x v => Host.reduce (FloatOps.maximumf (F := Ideal)) x v reducesTo_S2048x2048_S_d0_1 h_S_)) (ha := ⟨by decide, rfl⟩) (hb := ⟨by decide, rfl⟩) (hy := ⟨by decide, rfl⟩)
  rw [hk, hr, ← c_main_v216__main_v1310 hag hel, ← c_main_cst_35__main_cst_279 hag hel]

theorem c_main_v226__main_v1320 : StableHlo.after Cert.KernelIdeal.Hand.KOps (Cert.KernelIdeal.Hand.Wl (F := Ideal) m ρ c) (Proc.devRef .tc Cert.KernelIdeal.main_v226) = StableHlo.after (Cert.ReferenceIdeal.Hand.ops (F := Ideal)) (StableHlo.launchContents m' c) (Proc.devRef .tc Cert.ReferenceIdeal.main_v1320) := by
  have hk := StableHlo.Ascending.eq_unary Cert.KernelIdeal.Hand.KOps_asc (Cert.KernelIdeal.Hand.Wl m ρ c) (Cert.KernelIdeal.Hand.mem_KOps_st7 (Cert.KernelIdeal.Hand.mem_st_7_2 (List.getElem_mem (l := Cert.KernelIdeal.GenP.hostOps7_2 (F := Ideal)) (n := 13) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part26 (List.getElem_mem (l := Cert.ReferenceIdeal.Hand.ops_part26 (F := Ideal)) (n := 48) (by decide))) rfl rfl (by decide) (hx := ⟨by decide, rfl⟩) (hy := ⟨by decide, rfl⟩)
  rw [hk, hr, ← c_main_v225__main_v1319 hag hel]

theorem c_main_v227__main_v1321 : StableHlo.after Cert.KernelIdeal.Hand.KOps (Cert.KernelIdeal.Hand.Wl (F := Ideal) m ρ c) (Proc.devRef .tc Cert.KernelIdeal.main_v227) = StableHlo.after (Cert.ReferenceIdeal.Hand.ops (F := Ideal)) (StableHlo.launchContents m' c) (Proc.devRef .tc Cert.ReferenceIdeal.main_v1321) := by
  have hk := StableHlo.Ascending.eq_binary Cert.KernelIdeal.Hand.KOps_asc (Cert.KernelIdeal.Hand.Wl m ρ c) (Cert.KernelIdeal.Hand.mem_KOps_st7 (Cert.KernelIdeal.Hand.mem_st_7_2 (List.getElem_mem (l := Cert.KernelIdeal.GenP.hostOps7_2 (F := Ideal)) (n := 14) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part26 (List.getElem_mem (l := Cert.ReferenceIdeal.Hand.ops_part26 (F := Ideal)) (n := 49) (by decide))) rfl rfl rfl (by decide) (by decide) (ha := ⟨by decide, rfl⟩) (hb := ⟨by decide, rfl⟩) (hy := ⟨by decide, rfl⟩)
  rw [hk, hr, ← c_main_v224__main_v1318 hag hel, ← c_main_v226__main_v1320 hag hel]

theorem c_main_cst_36__main_cst_280 : StableHlo.after Cert.KernelIdeal.Hand.KOps (Cert.KernelIdeal.Hand.Wl (F := Ideal) m ρ c) (Proc.devRef .tc Cert.KernelIdeal.main_cst_36) = StableHlo.after (Cert.ReferenceIdeal.Hand.ops (F := Ideal)) (StableHlo.launchContents m' c) (Proc.devRef .tc Cert.ReferenceIdeal.main_cst_280) := by
  have hk := StableHlo.Ascending.eq_nullary Cert.KernelIdeal.Hand.KOps_asc (Cert.KernelIdeal.Hand.Wl m ρ c) (Cert.KernelIdeal.Hand.mem_KOps_st7 (Cert.KernelIdeal.Hand.mem_st_7_2 (List.getElem_mem (l := Cert.KernelIdeal.GenP.hostOps7_2 (F := Ideal)) (n := 15) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part26 (List.getElem_mem (l := Cert.ReferenceIdeal.Hand.ops_part26 (F := Ideal)) (n := 50) (by decide))) rfl (hy := ⟨by decide, rfl⟩)
  rw [hk, hr]

end Cert.Value

end
-- ==== Proof.Val.C007.lean ====
/- Steps C007 of the value claim's chain: for each listed pair, the kernel program's buffer and its reference twin hold equal contents at the two programs' final
   valuations — the two operations are the same function (read off the two operation lists) of operands already paired. A table; written by: bun scratch/corr.js 60 -/
import proofs.«146970_j35948876268088_1_alg».proof.Proof.Val.Seed
import proofs.«146970_j35948876268088_1_alg».proof.Proof.KI.Dots
import Mathlib.Tactic.FinCases
import proofs.«146970_j35948876268088_1_alg».proof.Proof.Val.C000
import proofs.«146970_j35948876268088_1_alg».proof.Proof.Val.C001
import proofs.«146970_j35948876268088_1_alg».proof.Proof.Val.C006

set_option maxRecDepth 16384

noncomputable section

namespace Cert.Value

open Idealize.ShloMosaic Idealize.ShloMosaic.TcCoe Idealize.SL.Sem

variable {m : (ℓ : Loc Cert.KernelIdeal.nD Cert.KernelIdeal.τ Cert.KernelIdeal.sig) → Buf (Elt Ideal) ℓ} {ρ : Dev Cert.KernelIdeal.nD → PrngReg}
  {m' : (ℓ : Loc Cert.ReferenceIdeal.nD Cert.ReferenceIdeal.τ Cert.ReferenceIdeal.sig) → Buf (Elt Ideal) ℓ} {c : Dev Cert.KernelIdeal.nD} (hag : Agree m m') (hel : Els m' c)
include hag hel

theorem c_main_v228__main_v1322 : StableHlo.after Cert.KernelIdeal.Hand.KOps (Cert.KernelIdeal.Hand.Wl (F := Ideal) m ρ c) (Proc.devRef .tc Cert.KernelIdeal.main_v228) = StableHlo.after (Cert.ReferenceIdeal.Hand.ops (F := Ideal)) (StableHlo.launchContents m' c) (Proc.devRef .tc Cert.ReferenceIdeal.main_v1322) := by
  have hk := StableHlo.Ascending.eq_unary Cert.KernelIdeal.Hand.KOps_asc (Cert.KernelIdeal.Hand.Wl m ρ c) (Cert.KernelIdeal.Hand.mem_KOps_st7 (Cert.KernelIdeal.Hand.mem_st_7_2 (List.getElem_mem (l := Cert.KernelIdeal.GenP.hostOps7_2 (F := Ideal)) (n := 16) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part26 (List.getElem_mem (l := Cert.ReferenceIdeal.Hand.ops_part26 (F := Ideal)) (n := 51) (by decide))) rfl rfl (by decide) (hx := ⟨by decide, rfl⟩) (hy := ⟨by decide, rfl⟩)
  rw [hk, hr, ← c_main_cst_36__main_cst_280 hag hel]

theorem c_main_v229__main_v1323 : StableHlo.after Cert.KernelIdeal.Hand.KOps (Cert.KernelIdeal.Hand.Wl (F := Ideal) m ρ c) (Proc.devRef .tc Cert.KernelIdeal.main_v229) = StableHlo.after (Cert.ReferenceIdeal.Hand.ops (F := Ideal)) (StableHlo.launchContents m' c) (Proc.devRef .tc Cert.ReferenceIdeal.main_v1323) := by
  have hk := StableHlo.Ascending.eq_binary Cert.KernelIdeal.Hand.KOps_asc (Cert.KernelIdeal.Hand.Wl m ρ c) (Cert.KernelIdeal.Hand.mem_KOps_st7 (Cert.KernelIdeal.Hand.mem_st_7_2 (List.getElem_mem (l := Cert.KernelIdeal.GenP.hostOps7_2 (F := Ideal)) (n := 17) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part26 (List.getElem_mem (l := Cert.ReferenceIdeal.Hand.ops_part26 (F := Ideal)) (n := 52) (by decide))) rfl rfl rfl (by decide) (by decide) (ha := ⟨by decide, rfl⟩) (hb := ⟨by decide, rfl⟩) (hy := ⟨by decide, rfl⟩)
  rw [hk, hr, ← c_main_v24__main_v122 hag hel, ← c_main_v228__main_v1322 hag hel]

theorem c_main_v230__main_v1324 : StableHlo.after Cert.KernelIdeal.Hand.KOps (Cert.KernelIdeal.Hand.Wl (F := Ideal) m ρ c) (Proc.devRef .tc Cert.KernelIdeal.main_v230) = StableHlo.after (Cert.ReferenceIdeal.Hand.ops (F := Ideal)) (StableHlo.launchContents m' c) (Proc.devRef .tc Cert.ReferenceIdeal.main_v1324) := by
  have hk := StableHlo.Ascending.eq_unary Cert.KernelIdeal.Hand.KOps_asc (Cert.KernelIdeal.Hand.Wl m ρ c) (Cert.KernelIdeal.Hand.mem_KOps_st7 (Cert.KernelIdeal.Hand.mem_st_7_2 (List.getElem_mem (l := Cert.KernelIdeal.GenP.hostOps7_2 (F := Ideal)) (n := 18) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part26 (List.getElem_mem (l := Cert.ReferenceIdeal.Hand.ops_part26 (F := Ideal)) (n := 53) (by decide))) rfl rfl (by decide) (hx := ⟨by decide, rfl⟩) (hy := ⟨by decide, rfl⟩)
  rw [hk, hr, ← c_main_v227__main_v1321 hag hel]

theorem c_main_v231__main_v1325 : StableHlo.after Cert.KernelIdeal.Hand.KOps (Cert.KernelIdeal.Hand.Wl (F := Ideal) m ρ c) (Proc.devRef .tc Cert.KernelIdeal.main_v231) = StableHlo.after (Cert.ReferenceIdeal.Hand.ops (F := Ideal)) (StableHlo.launchContents m' c) (Proc.devRef .tc Cert.ReferenceIdeal.main_v1325) := by
  have hk := StableHlo.Ascending.eq_binary Cert.KernelIdeal.Hand.KOps_asc (Cert.KernelIdeal.Hand.Wl m ρ c) (Cert.KernelIdeal.Hand.mem_KOps_st7 (Cert.KernelIdeal.Hand.mem_st_7_2 (List.getElem_mem (l := Cert.KernelIdeal.GenP.hostOps7_2 (F := Ideal)) (n := 19) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part26 (List.getElem_mem (l := Cert.ReferenceIdeal.Hand.ops_part26 (F := Ideal)) (n := 54) (by decide))) rfl rfl rfl (by decide) (by decide) (ha := ⟨by decide, rfl⟩) (hb := ⟨by decide, rfl⟩) (hy := ⟨by decide, rfl⟩)
  rw [hk, hr, ← c_main_v216__main_v1310 hag hel, ← c_main_v230__main_v1324 hag hel]

theorem c_main_cst_37__main_cst_281 : StableHlo.after Cert.KernelIdeal.Hand.KOps (Cert.KernelIdeal.Hand.Wl (F := Ideal) m ρ c) (Proc.devRef .tc Cert.KernelIdeal.main_cst_37) = StableHlo.after (Cert.ReferenceIdeal.Hand.ops (F := Ideal)) (StableHlo.launchContents m' c) (Proc.devRef .tc Cert.ReferenceIdeal.main_cst_281) := by
  have hk := StableHlo.Ascending.eq_nullary Cert.KernelIdeal.Hand.KOps_asc (Cert.KernelIdeal.Hand.Wl m ρ c) (Cert.KernelIdeal.Hand.mem_KOps_st7 (Cert.KernelIdeal.Hand.mem_st_7_2 (List.getElem_mem (l := Cert.KernelIdeal.GenP.hostOps7_2 (F := Ideal)) (n := 20) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part26 (List.getElem_mem (l := Cert.ReferenceIdeal.Hand.ops_part26 (F := Ideal)) (n := 55) (by decide))) rfl (hy := ⟨by decide, rfl⟩)
  rw [hk, hr]

theorem c_main_call2_v0__main_call58_v0 : StableHlo.after Cert.KernelIdeal.Hand.KOps (Cert.KernelIdeal.Hand.Wl (F := Ideal) m ρ c) (Proc.devRef .tc Cert.KernelIdeal.main_call2_v0) = StableHlo.after (Cert.ReferenceIdeal.Hand.ops (F := Ideal)) (StableHlo.launchContents m' c) (Proc.devRef .tc Cert.ReferenceIdeal.main_call58_v0) := by
  have hk := StableHlo.Ascending.eq_unary Cert.KernelIdeal.Hand.KOps_asc (Cert.KernelIdeal.Hand.Wl m ρ c) (Cert.KernelIdeal.Hand.mem_KOps_st7 (Cert.KernelIdeal.Hand.mem_st_7_3 (List.getElem_mem (l := Cert.KernelIdeal.GenP.hostOps7_3 (F := Ideal)) (n := 0) (by decide)))) rfl rfl (by decide) (x := Cert.KernelIdeal.main_cst_37) (y := Cert.KernelIdeal.main_call2_v0) (f := open Cert.KernelIdeal Cert.KernelIdeal.Gen in id) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part26 (List.getElem_mem (l := Cert.ReferenceIdeal.Hand.ops_part26 (F := Ideal)) (n := 56) (by decide))) rfl rfl (by decide) (x := Cert.ReferenceIdeal.main_cst_281) (y := Cert.ReferenceIdeal.main_call58_v0) (f := open Cert.ReferenceIdeal Cert.ReferenceIdeal.Gen in id) (hx := ⟨by decide, rfl⟩) (hy := ⟨by decide, rfl⟩)
  rw [hk, hr, ← c_main_cst_37__main_cst_281 hag hel]

theorem c_main_call2_v1__main_call58_v1 : StableHlo.after Cert.KernelIdeal.Hand.KOps (Cert.KernelIdeal.Hand.Wl (F := Ideal) m ρ c) (Proc.devRef .tc Cert.KernelIdeal.main_call2_v1) = StableHlo.after (Cert.ReferenceIdeal.Hand.ops (F := Ideal)) (StableHlo.launchContents m' c) (Proc.devRef .tc Cert.ReferenceIdeal.main_call58_v1) := by
  have hk := StableHlo.Ascending.eq_unary Cert.KernelIdeal.Hand.KOps_asc (Cert.KernelIdeal.Hand.Wl m ρ c) (Cert.KernelIdeal.Hand.mem_KOps_st7 (Cert.KernelIdeal.Hand.mem_st_7_3 (List.getElem_mem (l := Cert.KernelIdeal.GenP.hostOps7_3 (F := Ideal)) (n := 1) (by decide)))) rfl rfl (by decide) (x := Cert.KernelIdeal.main_call2_v0) (y := Cert.KernelIdeal.main_call2_v1) (f := open Cert.KernelIdeal Cert.KernelIdeal.Gen in (broadcastInDim S2048x2048 ![] bcast_S_S2048x2048)) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part26 (List.getElem_mem (l := Cert.ReferenceIdeal.Hand.ops_part26 (F := Ideal)) (n := 57) (by decide))) rfl rfl (by decide) (x := Cert.ReferenceIdeal.main_call58_v0) (y := Cert.ReferenceIdeal.main_call58_v1) (f := open Cert.ReferenceIdeal Cert.ReferenceIdeal.Gen in (broadcastInDim S2048x2048 ![] bcast_S_S2048x2048)) (hx := ⟨by decide, rfl⟩) (hy := ⟨by decide, rfl⟩)
  rw [hk, hr, ← c_main_call2_v0__main_call58_v0 hag hel]

theorem c_main_v232__main_v1326 : StableHlo.after Cert.KernelIdeal.Hand.KOps (Cert.KernelIdeal.Hand.Wl (F := Ideal) m ρ c) (Proc.devRef .tc Cert.KernelIdeal.main_v232) = StableHlo.after (Cert.ReferenceIdeal.Hand.ops (F := Ideal)) (StableHlo.launchContents m' c) (Proc.devRef .tc Cert.ReferenceIdeal.main_v1326) := by
  have hk := StableHlo.Ascending.eq_ternary Cert.KernelIdeal.Hand.KOps_asc (Cert.KernelIdeal.Hand.Wl m ρ c) (Cert.KernelIdeal.Hand.mem_KOps_st7 (Cert.KernelIdeal.Hand.mem_st_7_3 (List.getElem_mem (l := Cert.KernelIdeal.GenP.hostOps7_3 (F := Ideal)) (n := 2) (by decide)))) rfl rfl rfl rfl (by decide) (by decide) (by decide) (c := Cert.KernelIdeal.main_v229) (a := Cert.KernelIdeal.main_v231) (b := Cert.KernelIdeal.main_call2_v1) (y := Cert.KernelIdeal.main_v232) (f := (select : (⟨Cert.KernelIdeal.S2048x2048, .i1⟩ : BufTy).Contents (Elt Ideal) → (⟨Cert.KernelIdeal.S2048x2048, .f32⟩ : BufTy).Contents (Elt Ideal) → (⟨Cert.KernelIdeal.S2048x2048, .f32⟩ : BufTy).Contents (Elt Ideal) → (⟨Cert.KernelIdeal.S2048x2048, .f32⟩ : BufTy).Contents (Elt Ideal))) (hc := ⟨by decide, rfl⟩) (ha := ⟨by decide, rfl⟩) (hb := ⟨by decide, rfl⟩) (hy := ⟨by decide, rfl⟩)
  have hr := StableHlo.Ascending.eq_ternary (Cert.ReferenceIdeal.Hand.ops_asc (F := Ideal)) (StableHlo.launchContents m' c) (Cert.ReferenceIdeal.Hand.mem_ops_part26 (List.getElem_mem (l := Cert.ReferenceIdeal.Hand.ops_part26 (F := Ideal)) (n := 58) (by decide))) rfl rfl rfl rfl (by decide) (by decide) (by decide) (c := Cert.ReferenceIdeal.main_v1323) (a := Cert.ReferenceIdeal.main_v1325) (b := Cert.ReferenceIdeal.main_call58_v1) (y := Cert.ReferenceIdeal.main_v1326) (f := (select : (⟨Cert.ReferenceIdeal.S2048x2048, .i1⟩ : BufTy).Contents (Elt Ideal) → (⟨Cert.ReferenceIdeal.S2048x2048, .f32⟩ : BufTy).Contents (Elt Ideal) → (⟨Cert.ReferenceIdeal.S2048x2048, .f32⟩ : BufTy).Contents (Elt Ideal) → (⟨Cert.ReferenceIdeal.S2048x2048, .f32⟩ : BufTy).Contents (Elt Ideal))) (hc := ⟨by decide, rfl⟩) (ha := ⟨by decide, rfl⟩) (hb := ⟨by decide, rfl⟩) (hy := ⟨by decide, rfl⟩)
  rw [hk, hr, ← c_main_v229__main_v1323 hag hel, ← c_main_v231__main_v1325 hag hel, ← c_main_call2_v1__main_call58_v1 hag hel]

theorem c_main_cst_38__main_cst_282 : StableHlo.after Cert.KernelIdeal.Hand.KOps (Cert.KernelIdeal.Hand.Wl (F := Ideal) m ρ c) (Proc.devRef .tc Cert.KernelIdeal.main_cst_38) = StableHlo.after (Cert.ReferenceIdeal.Hand.ops (F := Ideal)) (StableHlo.launchContents m' c) (Proc.devRef .tc Cert.ReferenceIdeal.main_cst_282) := by
  have hk := StableHlo.Ascending.eq_nullary Cert.KernelIdeal.Hand.KOps_asc (Cert.KernelIdeal.Hand.Wl m ρ c) (Cert.KernelIdeal.Hand.mem_KOps_st7 (Cert.KernelIdeal.Hand.mem_st_7_4 (List.getElem_mem (l := Cert.KernelIdeal.GenP.hostOps7_4 (F := Ideal)) (n := 0) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part26 (List.getElem_mem (l := Cert.ReferenceIdeal.Hand.ops_part26 (F := Ideal)) (n := 59) (by decide))) rfl (hy := ⟨by decide, rfl⟩)
  rw [hk, hr]

theorem c_main_v233__main_v1327 : StableHlo.after Cert.KernelIdeal.Hand.KOps (Cert.KernelIdeal.Hand.Wl (F := Ideal) m ρ c) (Proc.devRef .tc Cert.KernelIdeal.main_v233) = StableHlo.after (Cert.ReferenceIdeal.Hand.ops (F := Ideal)) (StableHlo.launchContents m' c) (Proc.devRef .tc Cert.ReferenceIdeal.main_v1327) := by
  have hk := StableHlo.Ascending.eq_binary Cert.KernelIdeal.Hand.KOps_asc (Cert.KernelIdeal.Hand.Wl m ρ c) (Cert.KernelIdeal.Hand.mem_KOps_st7 (Cert.KernelIdeal.Hand.mem_st_7_4 (List.getElem_mem (l := Cert.KernelIdeal.GenP.hostOps7_4 (F := Ideal)) (n := 1) (by decide)))) rfl rfl rfl (by decide) (by decide) (a := Cert.KernelIdeal.main_v232) (b := Cert.KernelIdeal.main_cst_38) (y := Cert.KernelIdeal.main_v233) (f := open Cert.KernelIdeal Cert.KernelIdeal.Gen in (fun x v => Host.reduce (FloatOps.maximumf (F := Ideal)) x v reducesTo_S2048x2048_S2048_d1 h_S_)) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part26 (List.getElem_mem (l := Cert.ReferenceIdeal.Hand.ops_part26 (F := Ideal)) (n := 60) (by decide))) rfl rfl rfl (by decide) (by decide) (a := Cert.ReferenceIdeal.main_v1326) (b := Cert.ReferenceIdeal.main_cst_282) (y := Cert.ReferenceIdeal.main_v1327) (f := open Cert.ReferenceIdeal Cert.ReferenceIdeal.Gen in (fun x v => Host.reduce (FloatOps.maximumf (F := Ideal)) x v reducesTo_S2048x2048_S2048_d1 h_S_)) (ha := ⟨by decide, rfl⟩) (hb := ⟨by decide, rfl⟩) (hy := ⟨by decide, rfl⟩)
  rw [hk, hr, ← c_main_v232__main_v1326 hag hel, ← c_main_cst_38__main_cst_282 hag hel]

theorem c_main_cst_39__main_cst_283 : StableHlo.after Cert.KernelIdeal.Hand.KOps (Cert.KernelIdeal.Hand.Wl (F := Ideal) m ρ c) (Proc.devRef .tc Cert.KernelIdeal.main_cst_39) = StableHlo.after (Cert.ReferenceIdeal.Hand.ops (F := Ideal)) (StableHlo.launchContents m' c) (Proc.devRef .tc Cert.ReferenceIdeal.main_cst_283) := by
  have hk := StableHlo.Ascending.eq_nullary Cert.KernelIdeal.Hand.KOps_asc (Cert.KernelIdeal.Hand.Wl m ρ c) (Cert.KernelIdeal.Hand.mem_KOps_st7 (Cert.KernelIdeal.Hand.mem_st_7_4 (List.getElem_mem (l := Cert.KernelIdeal.GenP.hostOps7_4 (F := Ideal)) (n := 2) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part26 (List.getElem_mem (l := Cert.ReferenceIdeal.Hand.ops_part26 (F := Ideal)) (n := 61) (by decide))) rfl (hy := ⟨by decide, rfl⟩)
  rw [hk, hr]

theorem c_main_v234__main_v1328 : StableHlo.after Cert.KernelIdeal.Hand.KOps (Cert.KernelIdeal.Hand.Wl (F := Ideal) m ρ c) (Proc.devRef .tc Cert.KernelIdeal.main_v234) = StableHlo.after (Cert.ReferenceIdeal.Hand.ops (F := Ideal)) (StableHlo.launchContents m' c) (Proc.devRef .tc Cert.ReferenceIdeal.main_v1328) := by
  have hk := StableHlo.Ascending.eq_unary Cert.KernelIdeal.Hand.KOps_asc (Cert.KernelIdeal.Hand.Wl m ρ c) (Cert.KernelIdeal.Hand.mem_KOps_st7 (Cert.KernelIdeal.Hand.mem_st_7_4 (List.getElem_mem (l := Cert.KernelIdeal.GenP.hostOps7_4 (F := Ideal)) (n := 3) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part26 (List.getElem_mem (l := Cert.ReferenceIdeal.Hand.ops_part26 (F := Ideal)) (n := 62) (by decide))) rfl rfl (by decide) (hx := ⟨by decide, rfl⟩) (hy := ⟨by decide, rfl⟩)
  rw [hk, hr, ← c_main_cst_39__main_cst_283 hag hel]

theorem c_main_v235__main_v1329 : StableHlo.after Cert.KernelIdeal.Hand.KOps (Cert.KernelIdeal.Hand.Wl (F := Ideal) m ρ c) (Proc.devRef .tc Cert.KernelIdeal.main_v235) = StableHlo.after (Cert.ReferenceIdeal.Hand.ops (F := Ideal)) (StableHlo.launchContents m' c) (Proc.devRef .tc Cert.ReferenceIdeal.main_v1329) := by
  have hk := StableHlo.Ascending.eq_binary Cert.KernelIdeal.Hand.KOps_asc (Cert.KernelIdeal.Hand.Wl m ρ c) (Cert.KernelIdeal.Hand.mem_KOps_st7 (Cert.KernelIdeal.Hand.mem_st_7_4 (List.getElem_mem (l := Cert.KernelIdeal.GenP.hostOps7_4 (F := Ideal)) (n := 4) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part26 (List.getElem_mem (l := Cert.ReferenceIdeal.Hand.ops_part26 (F := Ideal)) (n := 63) (by decide))) rfl rfl rfl (by decide) (by decide) (ha := ⟨by decide, rfl⟩) (hb := ⟨by decide, rfl⟩) (hy := ⟨by decide, rfl⟩)
  rw [hk, hr, ← c_main_v234__main_v1328 hag hel, ← c_main_v233__main_v1327 hag hel]

theorem c_main_v236__main_v1330 : StableHlo.after Cert.KernelIdeal.Hand.KOps (Cert.KernelIdeal.Hand.Wl (F := Ideal) m ρ c) (Proc.devRef .tc Cert.KernelIdeal.main_v236) = StableHlo.after (Cert.ReferenceIdeal.Hand.ops (F := Ideal)) (StableHlo.launchContents m' c) (Proc.devRef .tc Cert.ReferenceIdeal.main_v1330) := by
  have hk := StableHlo.Ascending.eq_unary Cert.KernelIdeal.Hand.KOps_asc (Cert.KernelIdeal.Hand.Wl m ρ c) (Cert.KernelIdeal.Hand.mem_KOps_st7 (Cert.KernelIdeal.Hand.mem_st_7_4 (List.getElem_mem (l := Cert.KernelIdeal.GenP.hostOps7_4 (F := Ideal)) (n := 5) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part26 (List.getElem_mem (l := Cert.ReferenceIdeal.Hand.ops_part26 (F := Ideal)) (n := 64) (by decide))) rfl rfl (by decide) (hx := ⟨by decide, rfl⟩) (hy := ⟨by decide, rfl⟩)
  rw [hk, hr, ← c_main_v235__main_v1329 hag hel]

theorem c_main_v237__main_v1331 : StableHlo.after Cert.KernelIdeal.Hand.KOps (Cert.KernelIdeal.Hand.Wl (F := Ideal) m ρ c) (Proc.devRef .tc Cert.KernelIdeal.main_v237) = StableHlo.after (Cert.ReferenceIdeal.Hand.ops (F := Ideal)) (StableHlo.launchContents m' c) (Proc.devRef .tc Cert.ReferenceIdeal.main_v1331) := by
  have hk := StableHlo.Ascending.eq_unary Cert.KernelIdeal.Hand.KOps_asc (Cert.KernelIdeal.Hand.Wl m ρ c) (Cert.KernelIdeal.Hand.mem_KOps_st7 (Cert.KernelIdeal.Hand.mem_st_7_4 (List.getElem_mem (l := Cert.KernelIdeal.GenP.hostOps7_4 (F := Ideal)) (n := 6) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part26 (List.getElem_mem (l := Cert.ReferenceIdeal.Hand.ops_part26 (F := Ideal)) (n := 65) (by decide))) rfl rfl (by decide) (hx := ⟨by decide, rfl⟩) (hy := ⟨by decide, rfl⟩)
  rw [hk, hr, ← c_main_v236__main_v1330 hag hel]

theorem c_main_v238__main_v1332 : StableHlo.after Cert.KernelIdeal.Hand.KOps (Cert.KernelIdeal.Hand.Wl (F := Ideal) m ρ c) (Proc.devRef .tc Cert.KernelIdeal.main_v238) = StableHlo.after (Cert.ReferenceIdeal.Hand.ops (F := Ideal)) (StableHlo.launchContents m' c) (Proc.devRef .tc Cert.ReferenceIdeal.main_v1332) := by
  have hk := StableHlo.Ascending.eq_binary Cert.KernelIdeal.Hand.KOps_asc (Cert.KernelIdeal.Hand.Wl m ρ c) (Cert.KernelIdeal.Hand.mem_KOps_st7 (Cert.KernelIdeal.Hand.mem_st_7_4 (List.getElem_mem (l := Cert.KernelIdeal.GenP.hostOps7_4 (F := Ideal)) (n := 7) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part26 (List.getElem_mem (l := Cert.ReferenceIdeal.Hand.ops_part26 (F := Ideal)) (n := 66) (by decide))) rfl rfl rfl (by decide) (by decide) (ha := ⟨by decide, rfl⟩) (hb := ⟨by decide, rfl⟩) (hy := ⟨by decide, rfl⟩)
  rw [hk, hr, ← c_main_v232__main_v1326 hag hel, ← c_main_v237__main_v1331 hag hel]

theorem c_main_v239__main_v1333 : StableHlo.after Cert.KernelIdeal.Hand.KOps (Cert.KernelIdeal.Hand.Wl (F := Ideal) m ρ c) (Proc.devRef .tc Cert.KernelIdeal.main_v239) = StableHlo.after (Cert.ReferenceIdeal.Hand.ops (F := Ideal)) (StableHlo.launchContents m' c) (Proc.devRef .tc Cert.ReferenceIdeal.main_v1333) := by
  have hk := StableHlo.Ascending.eq_unary Cert.KernelIdeal.Hand.KOps_asc (Cert.KernelIdeal.Hand.Wl m ρ c) (Cert.KernelIdeal.Hand.mem_KOps_st7 (Cert.KernelIdeal.Hand.mem_st_7_4 (List.getElem_mem (l := Cert.KernelIdeal.GenP.hostOps7_4 (F := Ideal)) (n := 8) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part26 (List.getElem_mem (l := Cert.ReferenceIdeal.Hand.ops_part26 (F := Ideal)) (n := 67) (by decide))) rfl rfl (by decide) (hx := ⟨by decide, rfl⟩) (hy := ⟨by decide, rfl⟩)
  rw [hk, hr, ← c_main_v238__main_v1332 hag hel]

theorem c_main_cst_40__main_cst_284 : StableHlo.after Cert.KernelIdeal.Hand.KOps (Cert.KernelIdeal.Hand.Wl (F := Ideal) m ρ c) (Proc.devRef .tc Cert.KernelIdeal.main_cst_40) = StableHlo.after (Cert.ReferenceIdeal.Hand.ops (F := Ideal)) (StableHlo.launchContents m' c) (Proc.devRef .tc Cert.ReferenceIdeal.main_cst_284) := by
  have hk := StableHlo.Ascending.eq_nullary Cert.KernelIdeal.Hand.KOps_asc (Cert.KernelIdeal.Hand.Wl m ρ c) (Cert.KernelIdeal.Hand.mem_KOps_st7 (Cert.KernelIdeal.Hand.mem_st_7_4 (List.getElem_mem (l := Cert.KernelIdeal.GenP.hostOps7_4 (F := Ideal)) (n := 9) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part27 (List.getElem_mem (l := Cert.ReferenceIdeal.Hand.ops_part27 (F := Ideal)) (n := 0) (by decide))) rfl (hy := ⟨by decide, rfl⟩)
  rw [hk, hr]

theorem c_main_v240__main_v1334 : StableHlo.after Cert.KernelIdeal.Hand.KOps (Cert.KernelIdeal.Hand.Wl (F := Ideal) m ρ c) (Proc.devRef .tc Cert.KernelIdeal.main_v240) = StableHlo.after (Cert.ReferenceIdeal.Hand.ops (F := Ideal)) (StableHlo.launchContents m' c) (Proc.devRef .tc Cert.ReferenceIdeal.main_v1334) := by
  have hk := StableHlo.Ascending.eq_binary Cert.KernelIdeal.Hand.KOps_asc (Cert.KernelIdeal.Hand.Wl m ρ c) (Cert.KernelIdeal.Hand.mem_KOps_st7 (Cert.KernelIdeal.Hand.mem_st_7_4 (List.getElem_mem (l := Cert.KernelIdeal.GenP.hostOps7_4 (F := Ideal)) (n := 10) (by decide)))) rfl rfl rfl (by decide) (by decide) (a := Cert.KernelIdeal.main_v239) (b := Cert.KernelIdeal.main_cst_40) (y := Cert.KernelIdeal.main_v240) (f := open Cert.KernelIdeal Cert.KernelIdeal.Gen in (fun x v => Host.reduceAdd (F := Ideal) x v reducesTo_S2048x2048_S2048_d1 h_S_)) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part27 (List.getElem_mem (l := Cert.ReferenceIdeal.Hand.ops_part27 (F := Ideal)) (n := 1) (by decide))) rfl rfl rfl (by decide) (by decide) (a := Cert.ReferenceIdeal.main_v1333) (b := Cert.ReferenceIdeal.main_cst_284) (y := Cert.ReferenceIdeal.main_v1334) (f := open Cert.ReferenceIdeal Cert.ReferenceIdeal.Gen in (fun x v => Host.reduceAdd (F := Ideal) x v reducesTo_S2048x2048_S2048_d1 h_S_)) (ha := ⟨by decide, rfl⟩) (hb := ⟨by decide, rfl⟩) (hy := ⟨by decide, rfl⟩)
  rw [hk, hr, ← c_main_v239__main_v1333 hag hel, ← c_main_cst_40__main_cst_284 hag hel]

theorem c_main_v241__main_v1335 : StableHlo.after Cert.KernelIdeal.Hand.KOps (Cert.KernelIdeal.Hand.Wl (F := Ideal) m ρ c) (Proc.devRef .tc Cert.KernelIdeal.main_v241) = StableHlo.after (Cert.ReferenceIdeal.Hand.ops (F := Ideal)) (StableHlo.launchContents m' c) (Proc.devRef .tc Cert.ReferenceIdeal.main_v1335) := by
  have hk := StableHlo.Ascending.eq_unary Cert.KernelIdeal.Hand.KOps_asc (Cert.KernelIdeal.Hand.Wl m ρ c) (Cert.KernelIdeal.Hand.mem_KOps_st7 (Cert.KernelIdeal.Hand.mem_st_7_4 (List.getElem_mem (l := Cert.KernelIdeal.GenP.hostOps7_4 (F := Ideal)) (n := 11) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part27 (List.getElem_mem (l := Cert.ReferenceIdeal.Hand.ops_part27 (F := Ideal)) (n := 2) (by decide))) rfl rfl (by decide) (hx := ⟨by decide, rfl⟩) (hy := ⟨by decide, rfl⟩)
  rw [hk, hr, ← c_main_v240__main_v1334 hag hel]

theorem c_main_v242__main_v1336 : StableHlo.after Cert.KernelIdeal.Hand.KOps (Cert.KernelIdeal.Hand.Wl (F := Ideal) m ρ c) (Proc.devRef .tc Cert.KernelIdeal.main_v242) = StableHlo.after (Cert.ReferenceIdeal.Hand.ops (F := Ideal)) (StableHlo.launchContents m' c) (Proc.devRef .tc Cert.ReferenceIdeal.main_v1336) := by
  have hk := StableHlo.Ascending.eq_unary Cert.KernelIdeal.Hand.KOps_asc (Cert.KernelIdeal.Hand.Wl m ρ c) (Cert.KernelIdeal.Hand.mem_KOps_st7 (Cert.KernelIdeal.Hand.mem_st_7_4 (List.getElem_mem (l := Cert.KernelIdeal.GenP.hostOps7_4 (F := Ideal)) (n := 12) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part27 (List.getElem_mem (l := Cert.ReferenceIdeal.Hand.ops_part27 (F := Ideal)) (n := 3) (by decide))) rfl rfl (by decide) (hx := ⟨by decide, rfl⟩) (hy := ⟨by decide, rfl⟩)
  rw [hk, hr, ← c_main_v241__main_v1335 hag hel]

theorem c_main_v243__main_v1337 : StableHlo.after Cert.KernelIdeal.Hand.KOps (Cert.KernelIdeal.Hand.Wl (F := Ideal) m ρ c) (Proc.devRef .tc Cert.KernelIdeal.main_v243) = StableHlo.after (Cert.ReferenceIdeal.Hand.ops (F := Ideal)) (StableHlo.launchContents m' c) (Proc.devRef .tc Cert.ReferenceIdeal.main_v1337) := by
  have hk := StableHlo.Ascending.eq_binary Cert.KernelIdeal.Hand.KOps_asc (Cert.KernelIdeal.Hand.Wl m ρ c) (Cert.KernelIdeal.Hand.mem_KOps_st7 (Cert.KernelIdeal.Hand.mem_st_7_4 (List.getElem_mem (l := Cert.KernelIdeal.GenP.hostOps7_4 (F := Ideal)) (n := 13) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part27 (List.getElem_mem (l := Cert.ReferenceIdeal.Hand.ops_part27 (F := Ideal)) (n := 4) (by decide))) rfl rfl rfl (by decide) (by decide) (ha := ⟨by decide, rfl⟩) (hb := ⟨by decide, rfl⟩) (hy := ⟨by decide, rfl⟩)
  rw [hk, hr, ← c_main_v239__main_v1333 hag hel, ← c_main_v242__main_v1336 hag hel]

theorem c_main_v244__main_v1338 : StableHlo.after Cert.KernelIdeal.Hand.KOps (Cert.KernelIdeal.Hand.Wl (F := Ideal) m ρ c) (Proc.devRef .tc Cert.KernelIdeal.main_v244) = StableHlo.after (Cert.ReferenceIdeal.Hand.ops (F := Ideal)) (StableHlo.launchContents m' c) (Proc.devRef .tc Cert.ReferenceIdeal.main_v1338) := by
  have hk := StableHlo.Ascending.eq_unary Cert.KernelIdeal.Hand.KOps_asc (Cert.KernelIdeal.Hand.Wl m ρ c) (Cert.KernelIdeal.Hand.mem_KOps_st7 (Cert.KernelIdeal.Hand.mem_st_7_4 (List.getElem_mem (l := Cert.KernelIdeal.GenP.hostOps7_4 (F := Ideal)) (n := 14) (by decide)))) rfl rfl (by decide) (x := Cert.KernelIdeal.main_v243) (y := Cert.KernelIdeal.main_v244) (f := open Cert.KernelIdeal Cert.KernelIdeal.Gen in (transpose S2048x2048 [1, 0] · transposes_S2048x2048_S2048x2048_1_0)) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part27 (List.getElem_mem (l := Cert.ReferenceIdeal.Hand.ops_part27 (F := Ideal)) (n := 5) (by decide))) rfl rfl (by decide) (x := Cert.ReferenceIdeal.main_v1337) (y := Cert.ReferenceIdeal.main_v1338) (f := open Cert.ReferenceIdeal Cert.ReferenceIdeal.Gen in (transpose S2048x2048 [1, 0] · transposes_S2048x2048_S2048x2048_1_0)) (hx := ⟨by decide, rfl⟩) (hy := ⟨by decide, rfl⟩)
  rw [hk, hr, ← c_main_v243__main_v1337 hag hel]

theorem c_main_v245__main_v1339 : StableHlo.after Cert.KernelIdeal.Hand.KOps (Cert.KernelIdeal.Hand.Wl (F := Ideal) m ρ c) (Proc.devRef .tc Cert.KernelIdeal.main_v245) = StableHlo.after (Cert.ReferenceIdeal.Hand.ops (F := Ideal)) (StableHlo.launchContents m' c) (Proc.devRef .tc Cert.ReferenceIdeal.main_v1339) := by
  have hk := StableHlo.Ascending.eq_binary Cert.KernelIdeal.Hand.KOps_asc (Cert.KernelIdeal.Hand.Wl m ρ c) (Cert.KernelIdeal.Hand.mem_KOps_st7 (Cert.KernelIdeal.Hand.mem_st_7_4 (List.getElem_mem (l := Cert.KernelIdeal.GenP.hostOps7_4 (F := Ideal)) (n := 15) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part27 (List.getElem_mem (l := Cert.ReferenceIdeal.Hand.ops_part27 (F := Ideal)) (n := 6) (by decide))) rfl rfl rfl (by decide) (by decide) (ha := ⟨by decide, rfl⟩) (hb := ⟨by decide, rfl⟩) (hy := ⟨by decide, rfl⟩)
  rw [hk, hr, ← c_main_v244__main_v1338 hag hel, ← c_main_v205__main_v1299 hag hel]
  rfl

theorem c_main_call3_cst__main_call59_cst : StableHlo.after Cert.KernelIdeal.Hand.KOps (Cert.KernelIdeal.Hand.Wl (F := Ideal) m ρ c) (Proc.devRef .tc Cert.KernelIdeal.main_call3_cst) = StableHlo.after (Cert.ReferenceIdeal.Hand.ops (F := Ideal)) (StableHlo.launchContents m' c) (Proc.devRef .tc Cert.ReferenceIdeal.main_call59_cst) := by
  have hk := StableHlo.Ascending.eq_nullary Cert.KernelIdeal.Hand.KOps_asc (Cert.KernelIdeal.Hand.Wl m ρ c) (Cert.KernelIdeal.Hand.mem_KOps_st7 (Cert.KernelIdeal.Hand.mem_st_7_5 (List.getElem_mem (l := Cert.KernelIdeal.GenP.hostOps7_5 (F := Ideal)) (n := 0) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part27 (List.getElem_mem (l := Cert.ReferenceIdeal.Hand.ops_part27 (F := Ideal)) (n := 7) (by decide))) rfl (hy := ⟨by decide, rfl⟩)
  rw [hk, hr]

theorem c_main_call3_v0__main_call59_v0 : StableHlo.after Cert.KernelIdeal.Hand.KOps (Cert.KernelIdeal.Hand.Wl (F := Ideal) m ρ c) (Proc.devRef .tc Cert.KernelIdeal.main_call3_v0) = StableHlo.after (Cert.ReferenceIdeal.Hand.ops (F := Ideal)) (StableHlo.launchContents m' c) (Proc.devRef .tc Cert.ReferenceIdeal.main_call59_v0) := by
  have hk := StableHlo.Ascending.eq_unary Cert.KernelIdeal.Hand.KOps_asc (Cert.KernelIdeal.Hand.Wl m ρ c) (Cert.KernelIdeal.Hand.mem_KOps_st7 (Cert.KernelIdeal.Hand.mem_st_7_5 (List.getElem_mem (l := Cert.KernelIdeal.GenP.hostOps7_5 (F := Ideal)) (n := 1) (by decide)))) rfl rfl (by decide) (x := Cert.KernelIdeal.main_call3_cst) (y := Cert.KernelIdeal.main_call3_v0) (f := open Cert.KernelIdeal Cert.KernelIdeal.Gen in (broadcastInDim S2048x8 ![] bcast_S_S2048x8)) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part27 (List.getElem_mem (l := Cert.ReferenceIdeal.Hand.ops_part27 (F := Ideal)) (n := 8) (by decide))) rfl rfl (by decide) (x := Cert.ReferenceIdeal.main_call59_cst) (y := Cert.ReferenceIdeal.main_call59_v0) (f := open Cert.ReferenceIdeal Cert.ReferenceIdeal.Gen in (broadcastInDim S2048x8 ![] bcast_S_S2048x8)) (hx := ⟨by decide, rfl⟩) (hy := ⟨by decide, rfl⟩)
  rw [hk, hr, ← c_main_call3_cst__main_call59_cst hag hel]

theorem c_main_call3_v1__main_call59_v1 : StableHlo.after Cert.KernelIdeal.Hand.KOps (Cert.KernelIdeal.Hand.Wl (F := Ideal) m ρ c) (Proc.devRef .tc Cert.KernelIdeal.main_call3_v1) = StableHlo.after (Cert.ReferenceIdeal.Hand.ops (F := Ideal)) (StableHlo.launchContents m' c) (Proc.devRef .tc Cert.ReferenceIdeal.main_call59_v1) := by
  have hk := StableHlo.Ascending.eq_binary Cert.KernelIdeal.Hand.KOps_asc (Cert.KernelIdeal.Hand.Wl m ρ c) (Cert.KernelIdeal.Hand.mem_KOps_st7 (Cert.KernelIdeal.Hand.mem_st_7_5 (List.getElem_mem (l := Cert.KernelIdeal.GenP.hostOps7_5 (F := Ideal)) (n := 2) (by decide)))) rfl rfl rfl (by decide) (by decide) (a := Cert.KernelIdeal.main_v245) (b := Cert.KernelIdeal.main_call3_v0) (y := Cert.KernelIdeal.main_call3_v1) (f := open Cert.KernelIdeal Cert.KernelIdeal.Gen in (cmpf (F := Ideal) .ogt)) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part27 (List.getElem_mem (l := Cert.ReferenceIdeal.Hand.ops_part27 (F := Ideal)) (n := 9) (by decide))) rfl rfl rfl (by decide) (by decide) (a := Cert.ReferenceIdeal.main_v1339) (b := Cert.ReferenceIdeal.main_call59_v0) (y := Cert.ReferenceIdeal.main_call59_v1) (f := open Cert.ReferenceIdeal Cert.ReferenceIdeal.Gen in (cmpf (F := Ideal) .ogt)) (ha := ⟨by decide, rfl⟩) (hb := ⟨by decide, rfl⟩) (hy := ⟨by decide, rfl⟩)
  rw [hk, hr, ← c_main_v245__main_v1339 hag hel, ← c_main_call3_v0__main_call59_v0 hag hel]

theorem c_main_call3_cst_0__main_call59_cst_0 : StableHlo.after Cert.KernelIdeal.Hand.KOps (Cert.KernelIdeal.Hand.Wl (F := Ideal) m ρ c) (Proc.devRef .tc Cert.KernelIdeal.main_call3_cst_0) = StableHlo.after (Cert.ReferenceIdeal.Hand.ops (F := Ideal)) (StableHlo.launchContents m' c) (Proc.devRef .tc Cert.ReferenceIdeal.main_call59_cst_0) := by
  have hk := StableHlo.Ascending.eq_nullary Cert.KernelIdeal.Hand.KOps_asc (Cert.KernelIdeal.Hand.Wl m ρ c) (Cert.KernelIdeal.Hand.mem_KOps_st7 (Cert.KernelIdeal.Hand.mem_st_7_5 (List.getElem_mem (l := Cert.KernelIdeal.GenP.hostOps7_5 (F := Ideal)) (n := 3) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part27 (List.getElem_mem (l := Cert.ReferenceIdeal.Hand.ops_part27 (F := Ideal)) (n := 10) (by decide))) rfl (hy := ⟨by decide, rfl⟩)
  rw [hk, hr]

theorem c_main_call3_v2__main_call59_v2 : StableHlo.after Cert.KernelIdeal.Hand.KOps (Cert.KernelIdeal.Hand.Wl (F := Ideal) m ρ c) (Proc.devRef .tc Cert.KernelIdeal.main_call3_v2) = StableHlo.after (Cert.ReferenceIdeal.Hand.ops (F := Ideal)) (StableHlo.launchContents m' c) (Proc.devRef .tc Cert.ReferenceIdeal.main_call59_v2) := by
  have hk := StableHlo.Ascending.eq_unary Cert.KernelIdeal.Hand.KOps_asc (Cert.KernelIdeal.Hand.Wl m ρ c) (Cert.KernelIdeal.Hand.mem_KOps_st7 (Cert.KernelIdeal.Hand.mem_st_7_5 (List.getElem_mem (l := Cert.KernelIdeal.GenP.hostOps7_5 (F := Ideal)) (n := 4) (by decide)))) rfl rfl (by decide) (x := Cert.KernelIdeal.main_call3_cst_0) (y := Cert.KernelIdeal.main_call3_v2) (f := open Cert.KernelIdeal Cert.KernelIdeal.Gen in (broadcastInDim S2048x8 ![] bcast_S_S2048x8)) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part27 (List.getElem_mem (l := Cert.ReferenceIdeal.Hand.ops_part27 (F := Ideal)) (n := 11) (by decide))) rfl rfl (by decide) (x := Cert.ReferenceIdeal.main_call59_cst_0) (y := Cert.ReferenceIdeal.main_call59_v2) (f := open Cert.ReferenceIdeal Cert.ReferenceIdeal.Gen in (broadcastInDim S2048x8 ![] bcast_S_S2048x8)) (hx := ⟨by decide, rfl⟩) (hy := ⟨by decide, rfl⟩)
  rw [hk, hr, ← c_main_call3_cst_0__main_call59_cst_0 hag hel]

theorem c_main_call3_v3__main_call59_v3 : StableHlo.after Cert.KernelIdeal.Hand.KOps (Cert.KernelIdeal.Hand.Wl (F := Ideal) m ρ c) (Proc.devRef .tc Cert.KernelIdeal.main_call3_v3) = StableHlo.after (Cert.ReferenceIdeal.Hand.ops (F := Ideal)) (StableHlo.launchContents m' c) (Proc.devRef .tc Cert.ReferenceIdeal.main_call59_v3) := by
  have hk := StableHlo.Ascending.eq_binary Cert.KernelIdeal.Hand.KOps_asc (Cert.KernelIdeal.Hand.Wl m ρ c) (Cert.KernelIdeal.Hand.mem_KOps_st7 (Cert.KernelIdeal.Hand.mem_st_7_5 (List.getElem_mem (l := Cert.KernelIdeal.GenP.hostOps7_5 (F := Ideal)) (n := 5) (by decide)))) rfl rfl rfl (by decide) (by decide) (a := Cert.KernelIdeal.main_v245) (b := Cert.KernelIdeal.main_call3_v2) (y := Cert.KernelIdeal.main_call3_v3) (f := open Cert.KernelIdeal Cert.KernelIdeal.Gen in (cmpf (F := Ideal) .ogt)) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part27 (List.getElem_mem (l := Cert.ReferenceIdeal.Hand.ops_part27 (F := Ideal)) (n := 12) (by decide))) rfl rfl rfl (by decide) (by decide) (a := Cert.ReferenceIdeal.main_v1339) (b := Cert.ReferenceIdeal.main_call59_v2) (y := Cert.ReferenceIdeal.main_call59_v3) (f := open Cert.ReferenceIdeal Cert.ReferenceIdeal.Gen in (cmpf (F := Ideal) .ogt)) (ha := ⟨by decide, rfl⟩) (hb := ⟨by decide, rfl⟩) (hy := ⟨by decide, rfl⟩)
  rw [hk, hr, ← c_main_v245__main_v1339 hag hel, ← c_main_call3_v2__main_call59_v2 hag hel]

theorem c_main_call3_cst_1__main_call59_cst_1 : StableHlo.after Cert.KernelIdeal.Hand.KOps (Cert.KernelIdeal.Hand.Wl (F := Ideal) m ρ c) (Proc.devRef .tc Cert.KernelIdeal.main_call3_cst_1) = StableHlo.after (Cert.ReferenceIdeal.Hand.ops (F := Ideal)) (StableHlo.launchContents m' c) (Proc.devRef .tc Cert.ReferenceIdeal.main_call59_cst_1) := by
  have hk := StableHlo.Ascending.eq_nullary Cert.KernelIdeal.Hand.KOps_asc (Cert.KernelIdeal.Hand.Wl m ρ c) (Cert.KernelIdeal.Hand.mem_KOps_st7 (Cert.KernelIdeal.Hand.mem_st_7_5 (List.getElem_mem (l := Cert.KernelIdeal.GenP.hostOps7_5 (F := Ideal)) (n := 6) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part27 (List.getElem_mem (l := Cert.ReferenceIdeal.Hand.ops_part27 (F := Ideal)) (n := 13) (by decide))) rfl (hy := ⟨by decide, rfl⟩)
  rw [hk, hr]

theorem c_main_call3_call0_v0__main_call59_call0_v0 : StableHlo.after Cert.KernelIdeal.Hand.KOps (Cert.KernelIdeal.Hand.Wl (F := Ideal) m ρ c) (Proc.devRef .tc Cert.KernelIdeal.main_call3_call0_v0) = StableHlo.after (Cert.ReferenceIdeal.Hand.ops (F := Ideal)) (StableHlo.launchContents m' c) (Proc.devRef .tc Cert.ReferenceIdeal.main_call59_call0_v0) := by
  have hk := StableHlo.Ascending.eq_unary Cert.KernelIdeal.Hand.KOps_asc (Cert.KernelIdeal.Hand.Wl m ρ c) (Cert.KernelIdeal.Hand.mem_KOps_st7 (Cert.KernelIdeal.Hand.mem_st_7_5 (List.getElem_mem (l := Cert.KernelIdeal.GenP.hostOps7_5 (F := Ideal)) (n := 7) (by decide)))) rfl rfl (by decide) (x := Cert.KernelIdeal.main_call3_cst_1) (y := Cert.KernelIdeal.main_call3_call0_v0) (f := open Cert.KernelIdeal Cert.KernelIdeal.Gen in id) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part27 (List.getElem_mem (l := Cert.ReferenceIdeal.Hand.ops_part27 (F := Ideal)) (n := 14) (by decide))) rfl rfl (by decide) (x := Cert.ReferenceIdeal.main_call59_cst_1) (y := Cert.ReferenceIdeal.main_call59_call0_v0) (f := open Cert.ReferenceIdeal Cert.ReferenceIdeal.Gen in id) (hx := ⟨by decide, rfl⟩) (hy := ⟨by decide, rfl⟩)
  rw [hk, hr, ← c_main_call3_cst_1__main_call59_cst_1 hag hel]

theorem c_main_call3_call0_v1__main_call59_call0_v1 : StableHlo.after Cert.KernelIdeal.Hand.KOps (Cert.KernelIdeal.Hand.Wl (F := Ideal) m ρ c) (Proc.devRef .tc Cert.KernelIdeal.main_call3_call0_v1) = StableHlo.after (Cert.ReferenceIdeal.Hand.ops (F := Ideal)) (StableHlo.launchContents m' c) (Proc.devRef .tc Cert.ReferenceIdeal.main_call59_call0_v1) := by
  have hk := StableHlo.Ascending.eq_unary Cert.KernelIdeal.Hand.KOps_asc (Cert.KernelIdeal.Hand.Wl m ρ c) (Cert.KernelIdeal.Hand.mem_KOps_st7 (Cert.KernelIdeal.Hand.mem_st_7_5 (List.getElem_mem (l := Cert.KernelIdeal.GenP.hostOps7_5 (F := Ideal)) (n := 8) (by decide)))) rfl rfl (by decide) (x := Cert.KernelIdeal.main_call3_call0_v0) (y := Cert.KernelIdeal.main_call3_call0_v1) (f := open Cert.KernelIdeal Cert.KernelIdeal.Gen in (broadcastInDim S2048x8 ![] bcast_S_S2048x8)) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part27 (List.getElem_mem (l := Cert.ReferenceIdeal.Hand.ops_part27 (F := Ideal)) (n := 15) (by decide))) rfl rfl (by decide) (x := Cert.ReferenceIdeal.main_call59_call0_v0) (y := Cert.ReferenceIdeal.main_call59_call0_v1) (f := open Cert.ReferenceIdeal Cert.ReferenceIdeal.Gen in (broadcastInDim S2048x8 ![] bcast_S_S2048x8)) (hx := ⟨by decide, rfl⟩) (hy := ⟨by decide, rfl⟩)
  rw [hk, hr, ← c_main_call3_call0_v0__main_call59_call0_v0 hag hel]

theorem c_main_call3_v4__main_call59_v4 : StableHlo.after Cert.KernelIdeal.Hand.KOps (Cert.KernelIdeal.Hand.Wl (F := Ideal) m ρ c) (Proc.devRef .tc Cert.KernelIdeal.main_call3_v4) = StableHlo.after (Cert.ReferenceIdeal.Hand.ops (F := Ideal)) (StableHlo.launchContents m' c) (Proc.devRef .tc Cert.ReferenceIdeal.main_call59_v4) := by
  have hk := StableHlo.Ascending.eq_ternary Cert.KernelIdeal.Hand.KOps_asc (Cert.KernelIdeal.Hand.Wl m ρ c) (Cert.KernelIdeal.Hand.mem_KOps_st7 (Cert.KernelIdeal.Hand.mem_st_7_5 (List.getElem_mem (l := Cert.KernelIdeal.GenP.hostOps7_5 (F := Ideal)) (n := 9) (by decide)))) rfl rfl rfl rfl (by decide) (by decide) (by decide) (c := Cert.KernelIdeal.main_call3_v3) (a := Cert.KernelIdeal.main_call3_call0_v1) (b := Cert.KernelIdeal.main_v245) (y := Cert.KernelIdeal.main_call3_v4) (f := (select : (⟨Cert.KernelIdeal.S2048x8, .i1⟩ : BufTy).Contents (Elt Ideal) → (⟨Cert.KernelIdeal.S2048x8, .f32⟩ : BufTy).Contents (Elt Ideal) → (⟨Cert.KernelIdeal.S2048x8, .f32⟩ : BufTy).Contents (Elt Ideal) → (⟨Cert.KernelIdeal.S2048x8, .f32⟩ : BufTy).Contents (Elt Ideal))) (hc := ⟨by decide, rfl⟩) (ha := ⟨by decide, rfl⟩) (hb := ⟨by decide, rfl⟩) (hy := ⟨by decide, rfl⟩)
  have hr := StableHlo.Ascending.eq_ternary (Cert.ReferenceIdeal.Hand.ops_asc (F := Ideal)) (StableHlo.launchContents m' c) (Cert.ReferenceIdeal.Hand.mem_ops_part27 (List.getElem_mem (l := Cert.ReferenceIdeal.Hand.ops_part27 (F := Ideal)) (n := 16) (by decide))) rfl rfl rfl rfl (by decide) (by decide) (by decide) (c := Cert.ReferenceIdeal.main_call59_v3) (a := Cert.ReferenceIdeal.main_call59_call0_v1) (b := Cert.ReferenceIdeal.main_v1339) (y := Cert.ReferenceIdeal.main_call59_v4) (f := (select : (⟨Cert.ReferenceIdeal.S2048x8, .i1⟩ : BufTy).Contents (Elt Ideal) → (⟨Cert.ReferenceIdeal.S2048x8, .f32⟩ : BufTy).Contents (Elt Ideal) → (⟨Cert.ReferenceIdeal.S2048x8, .f32⟩ : BufTy).Contents (Elt Ideal) → (⟨Cert.ReferenceIdeal.S2048x8, .f32⟩ : BufTy).Contents (Elt Ideal))) (hc := ⟨by decide, rfl⟩) (ha := ⟨by decide, rfl⟩) (hb := ⟨by decide, rfl⟩) (hy := ⟨by decide, rfl⟩)
  rw [hk, hr, ← c_main_call3_v3__main_call59_v3 hag hel, ← c_main_call3_call0_v1__main_call59_call0_v1 hag hel, ← c_main_v245__main_v1339 hag hel]

theorem c_main_call3_v5__main_call59_v5 : StableHlo.after Cert.KernelIdeal.Hand.KOps (Cert.KernelIdeal.Hand.Wl (F := Ideal) m ρ c) (Proc.devRef .tc Cert.KernelIdeal.main_call3_v5) = StableHlo.after (Cert.ReferenceIdeal.Hand.ops (F := Ideal)) (StableHlo.launchContents m' c) (Proc.devRef .tc Cert.ReferenceIdeal.main_call59_v5) := by
  have hk := StableHlo.Ascending.eq_unary Cert.KernelIdeal.Hand.KOps_asc (Cert.KernelIdeal.Hand.Wl m ρ c) (Cert.KernelIdeal.Hand.mem_KOps_st7 (Cert.KernelIdeal.Hand.mem_st_7_5 (List.getElem_mem (l := Cert.KernelIdeal.GenP.hostOps7_5 (F := Ideal)) (n := 10) (by decide)))) rfl rfl (by decide) (x := Cert.KernelIdeal.main_call3_v4) (y := Cert.KernelIdeal.main_call3_v5) (f := open Cert.KernelIdeal Cert.KernelIdeal.Gen in Host.expm1 (F := Ideal)) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part27 (List.getElem_mem (l := Cert.ReferenceIdeal.Hand.ops_part27 (F := Ideal)) (n := 17) (by decide))) rfl rfl (by decide) (x := Cert.ReferenceIdeal.main_call59_v4) (y := Cert.ReferenceIdeal.main_call59_v5) (f := open Cert.ReferenceIdeal Cert.ReferenceIdeal.Gen in Host.expm1 (F := Ideal)) (hx := ⟨by decide, rfl⟩) (hy := ⟨by decide, rfl⟩)
  rw [hk, hr, ← c_main_call3_v4__main_call59_v4 hag hel]

theorem c_main_call3_cst_2__main_call59_cst_2 : StableHlo.after Cert.KernelIdeal.Hand.KOps (Cert.KernelIdeal.Hand.Wl (F := Ideal) m ρ c) (Proc.devRef .tc Cert.KernelIdeal.main_call3_cst_2) = StableHlo.after (Cert.ReferenceIdeal.Hand.ops (F := Ideal)) (StableHlo.launchContents m' c) (Proc.devRef .tc Cert.ReferenceIdeal.main_call59_cst_2) := by
  have hk := StableHlo.Ascending.eq_nullary Cert.KernelIdeal.Hand.KOps_asc (Cert.KernelIdeal.Hand.Wl m ρ c) (Cert.KernelIdeal.Hand.mem_KOps_st7 (Cert.KernelIdeal.Hand.mem_st_7_5 (List.getElem_mem (l := Cert.KernelIdeal.GenP.hostOps7_5 (F := Ideal)) (n := 11) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part27 (List.getElem_mem (l := Cert.ReferenceIdeal.Hand.ops_part27 (F := Ideal)) (n := 18) (by decide))) rfl (hy := ⟨by decide, rfl⟩)
  rw [hk, hr]

theorem c_main_call3_v6__main_call59_v6 : StableHlo.after Cert.KernelIdeal.Hand.KOps (Cert.KernelIdeal.Hand.Wl (F := Ideal) m ρ c) (Proc.devRef .tc Cert.KernelIdeal.main_call3_v6) = StableHlo.after (Cert.ReferenceIdeal.Hand.ops (F := Ideal)) (StableHlo.launchContents m' c) (Proc.devRef .tc Cert.ReferenceIdeal.main_call59_v6) := by
  have hk := StableHlo.Ascending.eq_unary Cert.KernelIdeal.Hand.KOps_asc (Cert.KernelIdeal.Hand.Wl m ρ c) (Cert.KernelIdeal.Hand.mem_KOps_st7 (Cert.KernelIdeal.Hand.mem_st_7_5 (List.getElem_mem (l := Cert.KernelIdeal.GenP.hostOps7_5 (F := Ideal)) (n := 12) (by decide)))) rfl rfl (by decide) (x := Cert.KernelIdeal.main_call3_cst_2) (y := Cert.KernelIdeal.main_call3_v6) (f := open Cert.KernelIdeal Cert.KernelIdeal.Gen in (broadcastInDim S2048x8 ![] bcast_S_S2048x8)) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part27 (List.getElem_mem (l := Cert.ReferenceIdeal.Hand.ops_part27 (F := Ideal)) (n := 19) (by decide))) rfl rfl (by decide) (x := Cert.ReferenceIdeal.main_call59_cst_2) (y := Cert.ReferenceIdeal.main_call59_v6) (f := open Cert.ReferenceIdeal Cert.ReferenceIdeal.Gen in (broadcastInDim S2048x8 ![] bcast_S_S2048x8)) (hx := ⟨by decide, rfl⟩) (hy := ⟨by decide, rfl⟩)
  rw [hk, hr, ← c_main_call3_cst_2__main_call59_cst_2 hag hel]

theorem c_main_call3_v7__main_call59_v7 : StableHlo.after Cert.KernelIdeal.Hand.KOps (Cert.KernelIdeal.Hand.Wl (F := Ideal) m ρ c) (Proc.devRef .tc Cert.KernelIdeal.main_call3_v7) = StableHlo.after (Cert.ReferenceIdeal.Hand.ops (F := Ideal)) (StableHlo.launchContents m' c) (Proc.devRef .tc Cert.ReferenceIdeal.main_call59_v7) := by
  have hk := StableHlo.Ascending.eq_binary Cert.KernelIdeal.Hand.KOps_asc (Cert.KernelIdeal.Hand.Wl m ρ c) (Cert.KernelIdeal.Hand.mem_KOps_st7 (Cert.KernelIdeal.Hand.mem_st_7_5 (List.getElem_mem (l := Cert.KernelIdeal.GenP.hostOps7_5 (F := Ideal)) (n := 13) (by decide)))) rfl rfl rfl (by decide) (by decide) (a := Cert.KernelIdeal.main_call3_v6) (b := Cert.KernelIdeal.main_call3_v5) (y := Cert.KernelIdeal.main_call3_v7) (f := open Cert.KernelIdeal Cert.KernelIdeal.Gen in mulf (F := Ideal)) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part27 (List.getElem_mem (l := Cert.ReferenceIdeal.Hand.ops_part27 (F := Ideal)) (n := 20) (by decide))) rfl rfl rfl (by decide) (by decide) (a := Cert.ReferenceIdeal.main_call59_v6) (b := Cert.ReferenceIdeal.main_call59_v5) (y := Cert.ReferenceIdeal.main_call59_v7) (f := open Cert.ReferenceIdeal Cert.ReferenceIdeal.Gen in mulf (F := Ideal)) (ha := ⟨by decide, rfl⟩) (hb := ⟨by decide, rfl⟩) (hy := ⟨by decide, rfl⟩)
  rw [hk, hr, ← c_main_call3_v6__main_call59_v6 hag hel, ← c_main_call3_v5__main_call59_v5 hag hel]

theorem c_main_v246__main_v1340 : StableHlo.after Cert.KernelIdeal.Hand.KOps (Cert.KernelIdeal.Hand.Wl (F := Ideal) m ρ c) (Proc.devRef .tc Cert.KernelIdeal.main_v246) = StableHlo.after (Cert.ReferenceIdeal.Hand.ops (F := Ideal)) (StableHlo.launchContents m' c) (Proc.devRef .tc Cert.ReferenceIdeal.main_v1340) := by
  have hk := StableHlo.Ascending.eq_ternary Cert.KernelIdeal.Hand.KOps_asc (Cert.KernelIdeal.Hand.Wl m ρ c) (Cert.KernelIdeal.Hand.mem_KOps_st7 (Cert.KernelIdeal.Hand.mem_st_7_5 (List.getElem_mem (l := Cert.KernelIdeal.GenP.hostOps7_5 (F := Ideal)) (n := 14) (by decide)))) rfl rfl rfl rfl (by decide) (by decide) (by decide) (c := Cert.KernelIdeal.main_call3_v1) (a := Cert.KernelIdeal.main_v245) (b := Cert.KernelIdeal.main_call3_v7) (y := Cert.KernelIdeal.main_v246) (f := (select : (⟨Cert.KernelIdeal.S2048x8, .i1⟩ : BufTy).Contents (Elt Ideal) → (⟨Cert.KernelIdeal.S2048x8, .f32⟩ : BufTy).Contents (Elt Ideal) → (⟨Cert.KernelIdeal.S2048x8, .f32⟩ : BufTy).Contents (Elt Ideal) → (⟨Cert.KernelIdeal.S2048x8, .f32⟩ : BufTy).Contents (Elt Ideal))) (hc := ⟨by decide, rfl⟩) (ha := ⟨by decide, rfl⟩) (hb := ⟨by decide, rfl⟩) (hy := ⟨by decide, rfl⟩)
  have hr := StableHlo.Ascending.eq_ternary (Cert.ReferenceIdeal.Hand.ops_asc (F := Ideal)) (StableHlo.launchContents m' c) (Cert.ReferenceIdeal.Hand.mem_ops_part27 (List.getElem_mem (l := Cert.ReferenceIdeal.Hand.ops_part27 (F := Ideal)) (n := 21) (by decide))) rfl rfl rfl rfl (by decide) (by decide) (by decide) (c := Cert.ReferenceIdeal.main_call59_v1) (a := Cert.ReferenceIdeal.main_v1339) (b := Cert.ReferenceIdeal.main_call59_v7) (y := Cert.ReferenceIdeal.main_v1340) (f := (select : (⟨Cert.ReferenceIdeal.S2048x8, .i1⟩ : BufTy).Contents (Elt Ideal) → (⟨Cert.ReferenceIdeal.S2048x8, .f32⟩ : BufTy).Contents (Elt Ideal) → (⟨Cert.ReferenceIdeal.S2048x8, .f32⟩ : BufTy).Contents (Elt Ideal) → (⟨Cert.ReferenceIdeal.S2048x8, .f32⟩ : BufTy).Contents (Elt Ideal))) (hc := ⟨by decide, rfl⟩) (ha := ⟨by decide, rfl⟩) (hb := ⟨by decide, rfl⟩) (hy := ⟨by decide, rfl⟩)
  rw [hk, hr, ← c_main_call3_v1__main_call59_v1 hag hel, ← c_main_v245__main_v1339 hag hel, ← c_main_call3_v7__main_call59_v7 hag hel]

theorem c_main_v247__main_v1342 : StableHlo.after Cert.KernelIdeal.Hand.KOps (Cert.KernelIdeal.Hand.Wl (F := Ideal) m ρ c) (Proc.devRef .tc Cert.KernelIdeal.main_v247) = StableHlo.after (Cert.ReferenceIdeal.Hand.ops (F := Ideal)) (StableHlo.launchContents m' c) (Proc.devRef .tc Cert.ReferenceIdeal.main_v1342) := by
  have hk := StableHlo.Ascending.eq_binary Cert.KernelIdeal.Hand.KOps_asc (Cert.KernelIdeal.Hand.Wl m ρ c) (Cert.KernelIdeal.Hand.mem_KOps_st7 (Cert.KernelIdeal.Hand.mem_st_7_6 (List.getElem_mem (l := Cert.KernelIdeal.GenP.hostOps7_6 (F := Ideal)) (n := 0) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part27 (List.getElem_mem (l := Cert.ReferenceIdeal.Hand.ops_part27 (F := Ideal)) (n := 23) (by decide))) rfl rfl rfl (by decide) (by decide) (ha := ⟨by decide, rfl⟩) (hb := ⟨by decide, rfl⟩) (hy := ⟨by decide, rfl⟩)
  rw [hk, hr, ← c_main_v38__main_v137 hag hel, ← c_main_v204__main_v1262 hag hel]
  rfl

theorem c_main_v248__main_v1343 : StableHlo.after Cert.KernelIdeal.Hand.KOps (Cert.KernelIdeal.Hand.Wl (F := Ideal) m ρ c) (Proc.devRef .tc Cert.KernelIdeal.main_v248) = StableHlo.after (Cert.ReferenceIdeal.Hand.ops (F := Ideal)) (StableHlo.launchContents m' c) (Proc.devRef .tc Cert.ReferenceIdeal.main_v1343) := by
  have hk := StableHlo.Ascending.eq_binary Cert.KernelIdeal.Hand.KOps_asc (Cert.KernelIdeal.Hand.Wl m ρ c) (Cert.KernelIdeal.Hand.mem_KOps_st7 (Cert.KernelIdeal.Hand.mem_st_7_6 (List.getElem_mem (l := Cert.KernelIdeal.GenP.hostOps7_6 (F := Ideal)) (n := 1) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part27 (List.getElem_mem (l := Cert.ReferenceIdeal.Hand.ops_part27 (F := Ideal)) (n := 24) (by decide))) rfl rfl rfl (by decide) (by decide) (ha := ⟨by decide, rfl⟩) (hb := ⟨by decide, rfl⟩) (hy := ⟨by decide, rfl⟩)
  rw [hk, hr, ← c_main_v45__main_v144 hag hel, ← c_main_v204__main_v1262 hag hel]
  rfl

theorem c_main_v249__main_v1344 : StableHlo.after Cert.KernelIdeal.Hand.KOps (Cert.KernelIdeal.Hand.Wl (F := Ideal) m ρ c) (Proc.devRef .tc Cert.KernelIdeal.main_v249) = StableHlo.after (Cert.ReferenceIdeal.Hand.ops (F := Ideal)) (StableHlo.launchContents m' c) (Proc.devRef .tc Cert.ReferenceIdeal.main_v1344) := by
  have hk := StableHlo.Ascending.eq_unary Cert.KernelIdeal.Hand.KOps_asc (Cert.KernelIdeal.Hand.Wl m ρ c) (Cert.KernelIdeal.Hand.mem_KOps_st7 (Cert.KernelIdeal.Hand.mem_st_7_6 (List.getElem_mem (l := Cert.KernelIdeal.GenP.hostOps7_6 (F := Ideal)) (n := 2) (by decide)))) rfl rfl (by decide) (x := Cert.KernelIdeal.main_v202) (y := Cert.KernelIdeal.main_v249) (f := open Cert.KernelIdeal Cert.KernelIdeal.Gen in (extractStridedSlice S8x1 ![0, 0] · slices_S16x1_S8x1_0_0)) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part27 (List.getElem_mem (l := Cert.ReferenceIdeal.Hand.ops_part27 (F := Ideal)) (n := 25) (by decide))) rfl rfl (by decide) (x := Cert.ReferenceIdeal.main_v1260) (y := Cert.ReferenceIdeal.main_v1344) (f := open Cert.ReferenceIdeal Cert.ReferenceIdeal.Gen in (extractStridedSlice S8x1 ![0, 0] · slices_S16x1_S8x1_0_0)) (hx := ⟨by decide, rfl⟩) (hy := ⟨by decide, rfl⟩)
  rw [hk, hr, ← c_main_v202__main_v1260 hag hel]

theorem c_main_v250__main_v1345 : StableHlo.after Cert.KernelIdeal.Hand.KOps (Cert.KernelIdeal.Hand.Wl (F := Ideal) m ρ c) (Proc.devRef .tc Cert.KernelIdeal.main_v250) = StableHlo.after (Cert.ReferenceIdeal.Hand.ops (F := Ideal)) (StableHlo.launchContents m' c) (Proc.devRef .tc Cert.ReferenceIdeal.main_v1345) := by
  have hk := StableHlo.Ascending.eq_binary Cert.KernelIdeal.Hand.KOps_asc (Cert.KernelIdeal.Hand.Wl m ρ c) (Cert.KernelIdeal.Hand.mem_KOps_st7 (Cert.KernelIdeal.Hand.mem_st_7_6 (List.getElem_mem (l := Cert.KernelIdeal.GenP.hostOps7_6 (F := Ideal)) (n := 3) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part27 (List.getElem_mem (l := Cert.ReferenceIdeal.Hand.ops_part27 (F := Ideal)) (n := 26) (by decide))) rfl rfl rfl (by decide) (by decide) (ha := ⟨by decide, rfl⟩) (hb := ⟨by decide, rfl⟩) (hy := ⟨by decide, rfl⟩)
  rw [hk, hr, ← c_main_v247__main_v1342 hag hel, ← c_main_v249__main_v1344 hag hel]
  rfl

theorem c_main_v251__main_v1346 : StableHlo.after Cert.KernelIdeal.Hand.KOps (Cert.KernelIdeal.Hand.Wl (F := Ideal) m ρ c) (Proc.devRef .tc Cert.KernelIdeal.main_v251) = StableHlo.after (Cert.ReferenceIdeal.Hand.ops (F := Ideal)) (StableHlo.launchContents m' c) (Proc.devRef .tc Cert.ReferenceIdeal.main_v1346) := by
  have hk := StableHlo.Ascending.eq_unary Cert.KernelIdeal.Hand.KOps_asc (Cert.KernelIdeal.Hand.Wl m ρ c) (Cert.KernelIdeal.Hand.mem_KOps_st7 (Cert.KernelIdeal.Hand.mem_st_7_6 (List.getElem_mem (l := Cert.KernelIdeal.GenP.hostOps7_6 (F := Ideal)) (n := 4) (by decide)))) rfl rfl (by decide) (x := Cert.KernelIdeal.main_v202) (y := Cert.KernelIdeal.main_v251) (f := open Cert.KernelIdeal Cert.KernelIdeal.Gen in (extractStridedSlice S8x1 ![8, 0] · slices_S16x1_S8x1_8_0)) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part27 (List.getElem_mem (l := Cert.ReferenceIdeal.Hand.ops_part27 (F := Ideal)) (n := 27) (by decide))) rfl rfl (by decide) (x := Cert.ReferenceIdeal.main_v1260) (y := Cert.ReferenceIdeal.main_v1346) (f := open Cert.ReferenceIdeal Cert.ReferenceIdeal.Gen in (extractStridedSlice S8x1 ![8, 0] · slices_S16x1_S8x1_8_0)) (hx := ⟨by decide, rfl⟩) (hy := ⟨by decide, rfl⟩)
  rw [hk, hr, ← c_main_v202__main_v1260 hag hel]

theorem c_main_v252__main_v1347 : StableHlo.after Cert.KernelIdeal.Hand.KOps (Cert.KernelIdeal.Hand.Wl (F := Ideal) m ρ c) (Proc.devRef .tc Cert.KernelIdeal.main_v252) = StableHlo.after (Cert.ReferenceIdeal.Hand.ops (F := Ideal)) (StableHlo.launchContents m' c) (Proc.devRef .tc Cert.ReferenceIdeal.main_v1347) := by
  have hk := StableHlo.Ascending.eq_binary Cert.KernelIdeal.Hand.KOps_asc (Cert.KernelIdeal.Hand.Wl m ρ c) (Cert.KernelIdeal.Hand.mem_KOps_st7 (Cert.KernelIdeal.Hand.mem_st_7_6 (List.getElem_mem (l := Cert.KernelIdeal.GenP.hostOps7_6 (F := Ideal)) (n := 5) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part27 (List.getElem_mem (l := Cert.ReferenceIdeal.Hand.ops_part27 (F := Ideal)) (n := 28) (by decide))) rfl rfl rfl (by decide) (by decide) (ha := ⟨by decide, rfl⟩) (hb := ⟨by decide, rfl⟩) (hy := ⟨by decide, rfl⟩)
  rw [hk, hr, ← c_main_v248__main_v1343 hag hel, ← c_main_v251__main_v1346 hag hel]
  rfl

theorem c_main_v253__main_v1348 : StableHlo.after Cert.KernelIdeal.Hand.KOps (Cert.KernelIdeal.Hand.Wl (F := Ideal) m ρ c) (Proc.devRef .tc Cert.KernelIdeal.main_v253) = StableHlo.after (Cert.ReferenceIdeal.Hand.ops (F := Ideal)) (StableHlo.launchContents m' c) (Proc.devRef .tc Cert.ReferenceIdeal.main_v1348) := by
  have hk := StableHlo.Ascending.eq_unary Cert.KernelIdeal.Hand.KOps_asc (Cert.KernelIdeal.Hand.Wl m ρ c) (Cert.KernelIdeal.Hand.mem_KOps_st7 (Cert.KernelIdeal.Hand.mem_st_7_6 (List.getElem_mem (l := Cert.KernelIdeal.GenP.hostOps7_6 (F := Ideal)) (n := 6) (by decide)))) rfl rfl (by decide) (x := Cert.KernelIdeal.main_v252) (y := Cert.KernelIdeal.main_v253) (f := open Cert.KernelIdeal Cert.KernelIdeal.Gen in (transpose S1x2048 [1, 0] · transposes_S2048x1_S1x2048_1_0)) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part27 (List.getElem_mem (l := Cert.ReferenceIdeal.Hand.ops_part27 (F := Ideal)) (n := 29) (by decide))) rfl rfl (by decide) (x := Cert.ReferenceIdeal.main_v1347) (y := Cert.ReferenceIdeal.main_v1348) (f := open Cert.ReferenceIdeal Cert.ReferenceIdeal.Gen in (transpose S1x2048 [1, 0] · transposes_S2048x1_S1x2048_1_0)) (hx := ⟨by decide, rfl⟩) (hy := ⟨by decide, rfl⟩)
  rw [hk, hr, ← c_main_v252__main_v1347 hag hel]

theorem c_main_v254__main_v1349 : StableHlo.after Cert.KernelIdeal.Hand.KOps (Cert.KernelIdeal.Hand.Wl (F := Ideal) m ρ c) (Proc.devRef .tc Cert.KernelIdeal.main_v254) = StableHlo.after (Cert.ReferenceIdeal.Hand.ops (F := Ideal)) (StableHlo.launchContents m' c) (Proc.devRef .tc Cert.ReferenceIdeal.main_v1349) := by
  have hk := StableHlo.Ascending.eq_unary Cert.KernelIdeal.Hand.KOps_asc (Cert.KernelIdeal.Hand.Wl m ρ c) (Cert.KernelIdeal.Hand.mem_KOps_st7 (Cert.KernelIdeal.Hand.mem_st_7_6 (List.getElem_mem (l := Cert.KernelIdeal.GenP.hostOps7_6 (F := Ideal)) (n := 7) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part27 (List.getElem_mem (l := Cert.ReferenceIdeal.Hand.ops_part27 (F := Ideal)) (n := 30) (by decide))) rfl rfl (by decide) (hx := ⟨by decide, rfl⟩) (hy := ⟨by decide, rfl⟩)
  rw [hk, hr, ← c_main_v250__main_v1345 hag hel]

theorem c_main_v255__main_v1350 : StableHlo.after Cert.KernelIdeal.Hand.KOps (Cert.KernelIdeal.Hand.Wl (F := Ideal) m ρ c) (Proc.devRef .tc Cert.KernelIdeal.main_v255) = StableHlo.after (Cert.ReferenceIdeal.Hand.ops (F := Ideal)) (StableHlo.launchContents m' c) (Proc.devRef .tc Cert.ReferenceIdeal.main_v1350) := by
  have hk := StableHlo.Ascending.eq_unary Cert.KernelIdeal.Hand.KOps_asc (Cert.KernelIdeal.Hand.Wl m ρ c) (Cert.KernelIdeal.Hand.mem_KOps_st7 (Cert.KernelIdeal.Hand.mem_st_7_6 (List.getElem_mem (l := Cert.KernelIdeal.GenP.hostOps7_6 (F := Ideal)) (n := 8) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part27 (List.getElem_mem (l := Cert.ReferenceIdeal.Hand.ops_part27 (F := Ideal)) (n := 31) (by decide))) rfl rfl (by decide) (hx := ⟨by decide, rfl⟩) (hy := ⟨by decide, rfl⟩)
  rw [hk, hr, ← c_main_v253__main_v1348 hag hel]

theorem c_main_v256__main_v1351 : StableHlo.after Cert.KernelIdeal.Hand.KOps (Cert.KernelIdeal.Hand.Wl (F := Ideal) m ρ c) (Proc.devRef .tc Cert.KernelIdeal.main_v256) = StableHlo.after (Cert.ReferenceIdeal.Hand.ops (F := Ideal)) (StableHlo.launchContents m' c) (Proc.devRef .tc Cert.ReferenceIdeal.main_v1351) := by
  have hk := StableHlo.Ascending.eq_binary Cert.KernelIdeal.Hand.KOps_asc (Cert.KernelIdeal.Hand.Wl m ρ c) (Cert.KernelIdeal.Hand.mem_KOps_st7 (Cert.KernelIdeal.Hand.mem_st_7_6 (List.getElem_mem (l := Cert.KernelIdeal.GenP.hostOps7_6 (F := Ideal)) (n := 9) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part27 (List.getElem_mem (l := Cert.ReferenceIdeal.Hand.ops_part27 (F := Ideal)) (n := 32) (by decide))) rfl rfl rfl (by decide) (by decide) (ha := ⟨by decide, rfl⟩) (hb := ⟨by decide, rfl⟩) (hy := ⟨by decide, rfl⟩)
  rw [hk, hr, ← c_main_v254__main_v1349 hag hel, ← c_main_v255__main_v1350 hag hel]

theorem c_main_cst_41__main_cst_285 : StableHlo.after Cert.KernelIdeal.Hand.KOps (Cert.KernelIdeal.Hand.Wl (F := Ideal) m ρ c) (Proc.devRef .tc Cert.KernelIdeal.main_cst_41) = StableHlo.after (Cert.ReferenceIdeal.Hand.ops (F := Ideal)) (StableHlo.launchContents m' c) (Proc.devRef .tc Cert.ReferenceIdeal.main_cst_285) := by
  have hk := StableHlo.Ascending.eq_nullary Cert.KernelIdeal.Hand.KOps_asc (Cert.KernelIdeal.Hand.Wl m ρ c) (Cert.KernelIdeal.Hand.mem_KOps_st7 (Cert.KernelIdeal.Hand.mem_st_7_6 (List.getElem_mem (l := Cert.KernelIdeal.GenP.hostOps7_6 (F := Ideal)) (n := 10) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part27 (List.getElem_mem (l := Cert.ReferenceIdeal.Hand.ops_part27 (F := Ideal)) (n := 33) (by decide))) rfl (hy := ⟨by decide, rfl⟩)
  rw [hk, hr]

theorem c_main_call4_cst__main_call60_cst : StableHlo.after Cert.KernelIdeal.Hand.KOps (Cert.KernelIdeal.Hand.Wl (F := Ideal) m ρ c) (Proc.devRef .tc Cert.KernelIdeal.main_call4_cst) = StableHlo.after (Cert.ReferenceIdeal.Hand.ops (F := Ideal)) (StableHlo.launchContents m' c) (Proc.devRef .tc Cert.ReferenceIdeal.main_call60_cst) := by
  have hk := StableHlo.Ascending.eq_nullary Cert.KernelIdeal.Hand.KOps_asc (Cert.KernelIdeal.Hand.Wl m ρ c) (Cert.KernelIdeal.Hand.mem_KOps_st7 (Cert.KernelIdeal.Hand.mem_st_7_7 (List.getElem_mem (l := Cert.KernelIdeal.GenP.hostOps7_7 (F := Ideal)) (n := 0) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part27 (List.getElem_mem (l := Cert.ReferenceIdeal.Hand.ops_part27 (F := Ideal)) (n := 34) (by decide))) rfl (hy := ⟨by decide, rfl⟩)
  rw [hk, hr]

theorem c_main_call4_v0__main_call60_v0 : StableHlo.after Cert.KernelIdeal.Hand.KOps (Cert.KernelIdeal.Hand.Wl (F := Ideal) m ρ c) (Proc.devRef .tc Cert.KernelIdeal.main_call4_v0) = StableHlo.after (Cert.ReferenceIdeal.Hand.ops (F := Ideal)) (StableHlo.launchContents m' c) (Proc.devRef .tc Cert.ReferenceIdeal.main_call60_v0) := by
  have hk := StableHlo.Ascending.eq_unary Cert.KernelIdeal.Hand.KOps_asc (Cert.KernelIdeal.Hand.Wl m ρ c) (Cert.KernelIdeal.Hand.mem_KOps_st7 (Cert.KernelIdeal.Hand.mem_st_7_7 (List.getElem_mem (l := Cert.KernelIdeal.GenP.hostOps7_7 (F := Ideal)) (n := 1) (by decide)))) rfl rfl (by decide) (x := Cert.KernelIdeal.main_call4_cst) (y := Cert.KernelIdeal.main_call4_v0) (f := open Cert.KernelIdeal Cert.KernelIdeal.Gen in (broadcastInDim S2048x2048 ![] bcast_S_S2048x2048)) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part27 (List.getElem_mem (l := Cert.ReferenceIdeal.Hand.ops_part27 (F := Ideal)) (n := 35) (by decide))) rfl rfl (by decide) (x := Cert.ReferenceIdeal.main_call60_cst) (y := Cert.ReferenceIdeal.main_call60_v0) (f := open Cert.ReferenceIdeal Cert.ReferenceIdeal.Gen in (broadcastInDim S2048x2048 ![] bcast_S_S2048x2048)) (hx := ⟨by decide, rfl⟩) (hy := ⟨by decide, rfl⟩)
  rw [hk, hr, ← c_main_call4_cst__main_call60_cst hag hel]

theorem c_main_call4_v1__main_call60_v1 : StableHlo.after Cert.KernelIdeal.Hand.KOps (Cert.KernelIdeal.Hand.Wl (F := Ideal) m ρ c) (Proc.devRef .tc Cert.KernelIdeal.main_call4_v1) = StableHlo.after (Cert.ReferenceIdeal.Hand.ops (F := Ideal)) (StableHlo.launchContents m' c) (Proc.devRef .tc Cert.ReferenceIdeal.main_call60_v1) := by
  have hk := StableHlo.Ascending.eq_binary Cert.KernelIdeal.Hand.KOps_asc (Cert.KernelIdeal.Hand.Wl m ρ c) (Cert.KernelIdeal.Hand.mem_KOps_st7 (Cert.KernelIdeal.Hand.mem_st_7_7 (List.getElem_mem (l := Cert.KernelIdeal.GenP.hostOps7_7 (F := Ideal)) (n := 2) (by decide)))) rfl rfl rfl (by decide) (by decide) (a := Cert.KernelIdeal.main_v256) (b := Cert.KernelIdeal.main_call4_v0) (y := Cert.KernelIdeal.main_call4_v1) (f := open Cert.KernelIdeal Cert.KernelIdeal.Gen in (cmpf (F := Ideal) .oge)) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part27 (List.getElem_mem (l := Cert.ReferenceIdeal.Hand.ops_part27 (F := Ideal)) (n := 36) (by decide))) rfl rfl rfl (by decide) (by decide) (a := Cert.ReferenceIdeal.main_v1351) (b := Cert.ReferenceIdeal.main_call60_v0) (y := Cert.ReferenceIdeal.main_call60_v1) (f := open Cert.ReferenceIdeal Cert.ReferenceIdeal.Gen in (cmpf (F := Ideal) .oge)) (ha := ⟨by decide, rfl⟩) (hb := ⟨by decide, rfl⟩) (hy := ⟨by decide, rfl⟩)
  rw [hk, hr, ← c_main_v256__main_v1351 hag hel, ← c_main_call4_v0__main_call60_v0 hag hel]

theorem c_main_call4_v2__main_call60_v2 : StableHlo.after Cert.KernelIdeal.Hand.KOps (Cert.KernelIdeal.Hand.Wl (F := Ideal) m ρ c) (Proc.devRef .tc Cert.KernelIdeal.main_call4_v2) = StableHlo.after (Cert.ReferenceIdeal.Hand.ops (F := Ideal)) (StableHlo.launchContents m' c) (Proc.devRef .tc Cert.ReferenceIdeal.main_call60_v2) := by
  have hk := StableHlo.Ascending.eq_unary Cert.KernelIdeal.Hand.KOps_asc (Cert.KernelIdeal.Hand.Wl m ρ c) (Cert.KernelIdeal.Hand.mem_KOps_st7 (Cert.KernelIdeal.Hand.mem_st_7_7 (List.getElem_mem (l := Cert.KernelIdeal.GenP.hostOps7_7 (F := Ideal)) (n := 3) (by decide)))) rfl rfl (by decide) (x := Cert.KernelIdeal.main_cst_41) (y := Cert.KernelIdeal.main_call4_v2) (f := open Cert.KernelIdeal Cert.KernelIdeal.Gen in id) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part27 (List.getElem_mem (l := Cert.ReferenceIdeal.Hand.ops_part27 (F := Ideal)) (n := 37) (by decide))) rfl rfl (by decide) (x := Cert.ReferenceIdeal.main_cst_285) (y := Cert.ReferenceIdeal.main_call60_v2) (f := open Cert.ReferenceIdeal Cert.ReferenceIdeal.Gen in id) (hx := ⟨by decide, rfl⟩) (hy := ⟨by decide, rfl⟩)
  rw [hk, hr, ← c_main_cst_41__main_cst_285 hag hel]

theorem c_main_call4_v3__main_call60_v3 : StableHlo.after Cert.KernelIdeal.Hand.KOps (Cert.KernelIdeal.Hand.Wl (F := Ideal) m ρ c) (Proc.devRef .tc Cert.KernelIdeal.main_call4_v3) = StableHlo.after (Cert.ReferenceIdeal.Hand.ops (F := Ideal)) (StableHlo.launchContents m' c) (Proc.devRef .tc Cert.ReferenceIdeal.main_call60_v3) := by
  have hk := StableHlo.Ascending.eq_unary Cert.KernelIdeal.Hand.KOps_asc (Cert.KernelIdeal.Hand.Wl m ρ c) (Cert.KernelIdeal.Hand.mem_KOps_st7 (Cert.KernelIdeal.Hand.mem_st_7_7 (List.getElem_mem (l := Cert.KernelIdeal.GenP.hostOps7_7 (F := Ideal)) (n := 4) (by decide)))) rfl rfl (by decide) (x := Cert.KernelIdeal.main_call4_v2) (y := Cert.KernelIdeal.main_call4_v3) (f := open Cert.KernelIdeal Cert.KernelIdeal.Gen in (broadcastInDim S2048x2048 ![] bcast_S_S2048x2048)) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part27 (List.getElem_mem (l := Cert.ReferenceIdeal.Hand.ops_part27 (F := Ideal)) (n := 38) (by decide))) rfl rfl (by decide) (x := Cert.ReferenceIdeal.main_call60_v2) (y := Cert.ReferenceIdeal.main_call60_v3) (f := open Cert.ReferenceIdeal Cert.ReferenceIdeal.Gen in (broadcastInDim S2048x2048 ![] bcast_S_S2048x2048)) (hx := ⟨by decide, rfl⟩) (hy := ⟨by decide, rfl⟩)
  rw [hk, hr, ← c_main_call4_v2__main_call60_v2 hag hel]

theorem c_main_call4_v4__main_call60_v4 : StableHlo.after Cert.KernelIdeal.Hand.KOps (Cert.KernelIdeal.Hand.Wl (F := Ideal) m ρ c) (Proc.devRef .tc Cert.KernelIdeal.main_call4_v4) = StableHlo.after (Cert.ReferenceIdeal.Hand.ops (F := Ideal)) (StableHlo.launchContents m' c) (Proc.devRef .tc Cert.ReferenceIdeal.main_call60_v4) := by
  have hk := StableHlo.Ascending.eq_binary Cert.KernelIdeal.Hand.KOps_asc (Cert.KernelIdeal.Hand.Wl m ρ c) (Cert.KernelIdeal.Hand.mem_KOps_st7 (Cert.KernelIdeal.Hand.mem_st_7_7 (List.getElem_mem (l := Cert.KernelIdeal.GenP.hostOps7_7 (F := Ideal)) (n := 5) (by decide)))) rfl rfl rfl (by decide) (by decide) (a := Cert.KernelIdeal.main_call4_v3) (b := Cert.KernelIdeal.main_v256) (y := Cert.KernelIdeal.main_call4_v4) (f := open Cert.KernelIdeal Cert.KernelIdeal.Gen in mulf (F := Ideal)) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part27 (List.getElem_mem (l := Cert.ReferenceIdeal.Hand.ops_part27 (F := Ideal)) (n := 39) (by decide))) rfl rfl rfl (by decide) (by decide) (a := Cert.ReferenceIdeal.main_call60_v3) (b := Cert.ReferenceIdeal.main_v1351) (y := Cert.ReferenceIdeal.main_call60_v4) (f := open Cert.ReferenceIdeal Cert.ReferenceIdeal.Gen in mulf (F := Ideal)) (ha := ⟨by decide, rfl⟩) (hb := ⟨by decide, rfl⟩) (hy := ⟨by decide, rfl⟩)
  rw [hk, hr, ← c_main_call4_v3__main_call60_v3 hag hel, ← c_main_v256__main_v1351 hag hel]

theorem c_main_v257__main_v1352 : StableHlo.after Cert.KernelIdeal.Hand.KOps (Cert.KernelIdeal.Hand.Wl (F := Ideal) m ρ c) (Proc.devRef .tc Cert.KernelIdeal.main_v257) = StableHlo.after (Cert.ReferenceIdeal.Hand.ops (F := Ideal)) (StableHlo.launchContents m' c) (Proc.devRef .tc Cert.ReferenceIdeal.main_v1352) := by
  have hk := StableHlo.Ascending.eq_ternary Cert.KernelIdeal.Hand.KOps_asc (Cert.KernelIdeal.Hand.Wl m ρ c) (Cert.KernelIdeal.Hand.mem_KOps_st7 (Cert.KernelIdeal.Hand.mem_st_7_7 (List.getElem_mem (l := Cert.KernelIdeal.GenP.hostOps7_7 (F := Ideal)) (n := 6) (by decide)))) rfl rfl rfl rfl (by decide) (by decide) (by decide) (c := Cert.KernelIdeal.main_call4_v1) (a := Cert.KernelIdeal.main_v256) (b := Cert.KernelIdeal.main_call4_v4) (y := Cert.KernelIdeal.main_v257) (f := (select : (⟨Cert.KernelIdeal.S2048x2048, .i1⟩ : BufTy).Contents (Elt Ideal) → (⟨Cert.KernelIdeal.S2048x2048, .f32⟩ : BufTy).Contents (Elt Ideal) → (⟨Cert.KernelIdeal.S2048x2048, .f32⟩ : BufTy).Contents (Elt Ideal) → (⟨Cert.KernelIdeal.S2048x2048, .f32⟩ : BufTy).Contents (Elt Ideal))) (hc := ⟨by decide, rfl⟩) (ha := ⟨by decide, rfl⟩) (hb := ⟨by decide, rfl⟩) (hy := ⟨by decide, rfl⟩)
  have hr := StableHlo.Ascending.eq_ternary (Cert.ReferenceIdeal.Hand.ops_asc (F := Ideal)) (StableHlo.launchContents m' c) (Cert.ReferenceIdeal.Hand.mem_ops_part27 (List.getElem_mem (l := Cert.ReferenceIdeal.Hand.ops_part27 (F := Ideal)) (n := 40) (by decide))) rfl rfl rfl rfl (by decide) (by decide) (by decide) (c := Cert.ReferenceIdeal.main_call60_v1) (a := Cert.ReferenceIdeal.main_v1351) (b := Cert.ReferenceIdeal.main_call60_v4) (y := Cert.ReferenceIdeal.main_v1352) (f := (select : (⟨Cert.ReferenceIdeal.S2048x2048, .i1⟩ : BufTy).Contents (Elt Ideal) → (⟨Cert.ReferenceIdeal.S2048x2048, .f32⟩ : BufTy).Contents (Elt Ideal) → (⟨Cert.ReferenceIdeal.S2048x2048, .f32⟩ : BufTy).Contents (Elt Ideal) → (⟨Cert.ReferenceIdeal.S2048x2048, .f32⟩ : BufTy).Contents (Elt Ideal))) (hc := ⟨by decide, rfl⟩) (ha := ⟨by decide, rfl⟩) (hb := ⟨by decide, rfl⟩) (hy := ⟨by decide, rfl⟩)
  rw [hk, hr, ← c_main_call4_v1__main_call60_v1 hag hel, ← c_main_v256__main_v1351 hag hel, ← c_main_call4_v4__main_call60_v4 hag hel]

theorem c_main_cst_42__main_cst_286 : StableHlo.after Cert.KernelIdeal.Hand.KOps (Cert.KernelIdeal.Hand.Wl (F := Ideal) m ρ c) (Proc.devRef .tc Cert.KernelIdeal.main_cst_42) = StableHlo.after (Cert.ReferenceIdeal.Hand.ops (F := Ideal)) (StableHlo.launchContents m' c) (Proc.devRef .tc Cert.ReferenceIdeal.main_cst_286) := by
  have hk := StableHlo.Ascending.eq_nullary Cert.KernelIdeal.Hand.KOps_asc (Cert.KernelIdeal.Hand.Wl m ρ c) (Cert.KernelIdeal.Hand.mem_KOps_st7 (Cert.KernelIdeal.Hand.mem_st_7_8 (List.getElem_mem (l := Cert.KernelIdeal.GenP.hostOps7_8 (F := Ideal)) (n := 0) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part27 (List.getElem_mem (l := Cert.ReferenceIdeal.Hand.ops_part27 (F := Ideal)) (n := 41) (by decide))) rfl (hy := ⟨by decide, rfl⟩)
  rw [hk, hr]

theorem c_main_v258__main_v1353 : StableHlo.after Cert.KernelIdeal.Hand.KOps (Cert.KernelIdeal.Hand.Wl (F := Ideal) m ρ c) (Proc.devRef .tc Cert.KernelIdeal.main_v258) = StableHlo.after (Cert.ReferenceIdeal.Hand.ops (F := Ideal)) (StableHlo.launchContents m' c) (Proc.devRef .tc Cert.ReferenceIdeal.main_v1353) := by
  have hk := StableHlo.Ascending.eq_binary Cert.KernelIdeal.Hand.KOps_asc (Cert.KernelIdeal.Hand.Wl m ρ c) (Cert.KernelIdeal.Hand.mem_KOps_st7 (Cert.KernelIdeal.Hand.mem_st_7_8 (List.getElem_mem (l := Cert.KernelIdeal.GenP.hostOps7_8 (F := Ideal)) (n := 1) (by decide)))) rfl rfl rfl (by decide) (by decide) (a := Cert.KernelIdeal.main_v200) (b := Cert.KernelIdeal.main_cst_42) (y := Cert.KernelIdeal.main_v258) (f := open Cert.KernelIdeal Cert.KernelIdeal.Gen in (fun x v => Host.reduce (FloatOps.minimumf (F := Ideal)) x v reducesTo_S2048x1_S_d0_1 h_S_)) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part27 (List.getElem_mem (l := Cert.ReferenceIdeal.Hand.ops_part27 (F := Ideal)) (n := 42) (by decide))) rfl rfl rfl (by decide) (by decide) (a := Cert.ReferenceIdeal.main_v1298) (b := Cert.ReferenceIdeal.main_cst_286) (y := Cert.ReferenceIdeal.main_v1353) (f := open Cert.ReferenceIdeal Cert.ReferenceIdeal.Gen in (fun x v => Host.reduce (FloatOps.minimumf (F := Ideal)) x v reducesTo_S2048x1_S_d0_1 h_S_)) (ha := ⟨by decide, rfl⟩) (hb := ⟨by decide, rfl⟩) (hy := ⟨by decide, rfl⟩)
  rw [hk, hr, ← c_main_v200__main_v1298 hag hel, ← c_main_cst_42__main_cst_286 hag hel]

theorem c_main_v259__main_v1354 : StableHlo.after Cert.KernelIdeal.Hand.KOps (Cert.KernelIdeal.Hand.Wl (F := Ideal) m ρ c) (Proc.devRef .tc Cert.KernelIdeal.main_v259) = StableHlo.after (Cert.ReferenceIdeal.Hand.ops (F := Ideal)) (StableHlo.launchContents m' c) (Proc.devRef .tc Cert.ReferenceIdeal.main_v1354) := by
  have hk := StableHlo.Ascending.eq_unary Cert.KernelIdeal.Hand.KOps_asc (Cert.KernelIdeal.Hand.Wl m ρ c) (Cert.KernelIdeal.Hand.mem_KOps_st7 (Cert.KernelIdeal.Hand.mem_st_7_8 (List.getElem_mem (l := Cert.KernelIdeal.GenP.hostOps7_8 (F := Ideal)) (n := 2) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part27 (List.getElem_mem (l := Cert.ReferenceIdeal.Hand.ops_part27 (F := Ideal)) (n := 43) (by decide))) rfl rfl (by decide) (hx := ⟨by decide, rfl⟩) (hy := ⟨by decide, rfl⟩)
  rw [hk, hr, ← c_main_v258__main_v1353 hag hel]

end Cert.Value

end
-- ==== Proof.Val.C008.lean ====
/- Steps C008 of the value claim's chain: for each listed pair, the kernel program's buffer and its reference twin hold equal contents at the two programs' final
   valuations — the two operations are the same function (read off the two operation lists) of operands already paired. A table; written by: bun scratch/corr.js 60 -/
import proofs.«146970_j35948876268088_1_alg».proof.Proof.Val.Seed
import proofs.«146970_j35948876268088_1_alg».proof.Proof.KI.Dots
import Mathlib.Tactic.FinCases
import proofs.«146970_j35948876268088_1_alg».proof.Proof.Val.C000
import proofs.«146970_j35948876268088_1_alg».proof.Proof.Val.C001
import proofs.«146970_j35948876268088_1_alg».proof.Proof.Val.C003
import proofs.«146970_j35948876268088_1_alg».proof.Proof.Val.C006
import proofs.«146970_j35948876268088_1_alg».proof.Proof.Val.C007

set_option maxRecDepth 16384

noncomputable section

namespace Cert.Value

open Idealize.ShloMosaic Idealize.ShloMosaic.TcCoe Idealize.SL.Sem

variable {m : (ℓ : Loc Cert.KernelIdeal.nD Cert.KernelIdeal.τ Cert.KernelIdeal.sig) → Buf (Elt Ideal) ℓ} {ρ : Dev Cert.KernelIdeal.nD → PrngReg}
  {m' : (ℓ : Loc Cert.ReferenceIdeal.nD Cert.ReferenceIdeal.τ Cert.ReferenceIdeal.sig) → Buf (Elt Ideal) ℓ} {c : Dev Cert.KernelIdeal.nD} (hag : Agree m m') (hel : Els m' c)
include hag hel

theorem c_main_v260__main_v1355 : StableHlo.after Cert.KernelIdeal.Hand.KOps (Cert.KernelIdeal.Hand.Wl (F := Ideal) m ρ c) (Proc.devRef .tc Cert.KernelIdeal.main_v260) = StableHlo.after (Cert.ReferenceIdeal.Hand.ops (F := Ideal)) (StableHlo.launchContents m' c) (Proc.devRef .tc Cert.ReferenceIdeal.main_v1355) := by
  have hk := StableHlo.Ascending.eq_binary Cert.KernelIdeal.Hand.KOps_asc (Cert.KernelIdeal.Hand.Wl m ρ c) (Cert.KernelIdeal.Hand.mem_KOps_st7 (Cert.KernelIdeal.Hand.mem_st_7_8 (List.getElem_mem (l := Cert.KernelIdeal.GenP.hostOps7_8 (F := Ideal)) (n := 3) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part27 (List.getElem_mem (l := Cert.ReferenceIdeal.Hand.ops_part27 (F := Ideal)) (n := 44) (by decide))) rfl rfl rfl (by decide) (by decide) (ha := ⟨by decide, rfl⟩) (hb := ⟨by decide, rfl⟩) (hy := ⟨by decide, rfl⟩)
  rw [hk, hr, ← c_main_v200__main_v1298 hag hel, ← c_main_v259__main_v1354 hag hel]

theorem c_main_cst_43__main_cst_287 : StableHlo.after Cert.KernelIdeal.Hand.KOps (Cert.KernelIdeal.Hand.Wl (F := Ideal) m ρ c) (Proc.devRef .tc Cert.KernelIdeal.main_cst_43) = StableHlo.after (Cert.ReferenceIdeal.Hand.ops (F := Ideal)) (StableHlo.launchContents m' c) (Proc.devRef .tc Cert.ReferenceIdeal.main_cst_287) := by
  have hk := StableHlo.Ascending.eq_nullary Cert.KernelIdeal.Hand.KOps_asc (Cert.KernelIdeal.Hand.Wl m ρ c) (Cert.KernelIdeal.Hand.mem_KOps_st7 (Cert.KernelIdeal.Hand.mem_st_7_8 (List.getElem_mem (l := Cert.KernelIdeal.GenP.hostOps7_8 (F := Ideal)) (n := 4) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part27 (List.getElem_mem (l := Cert.ReferenceIdeal.Hand.ops_part27 (F := Ideal)) (n := 45) (by decide))) rfl (hy := ⟨by decide, rfl⟩)
  rw [hk, hr]

theorem c_main_v261__main_v1356 : StableHlo.after Cert.KernelIdeal.Hand.KOps (Cert.KernelIdeal.Hand.Wl (F := Ideal) m ρ c) (Proc.devRef .tc Cert.KernelIdeal.main_v261) = StableHlo.after (Cert.ReferenceIdeal.Hand.ops (F := Ideal)) (StableHlo.launchContents m' c) (Proc.devRef .tc Cert.ReferenceIdeal.main_v1356) := by
  have hk := StableHlo.Ascending.eq_binary Cert.KernelIdeal.Hand.KOps_asc (Cert.KernelIdeal.Hand.Wl m ρ c) (Cert.KernelIdeal.Hand.mem_KOps_st7 (Cert.KernelIdeal.Hand.mem_st_7_8 (List.getElem_mem (l := Cert.KernelIdeal.GenP.hostOps7_8 (F := Ideal)) (n := 5) (by decide)))) rfl rfl rfl (by decide) (by decide) (a := Cert.KernelIdeal.main_v200) (b := Cert.KernelIdeal.main_cst_43) (y := Cert.KernelIdeal.main_v261) (f := open Cert.KernelIdeal Cert.KernelIdeal.Gen in (fun x v => Host.reduce (FloatOps.maximumf (F := Ideal)) x v reducesTo_S2048x1_S_d0_1 h_S_)) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part27 (List.getElem_mem (l := Cert.ReferenceIdeal.Hand.ops_part27 (F := Ideal)) (n := 46) (by decide))) rfl rfl rfl (by decide) (by decide) (a := Cert.ReferenceIdeal.main_v1298) (b := Cert.ReferenceIdeal.main_cst_287) (y := Cert.ReferenceIdeal.main_v1356) (f := open Cert.ReferenceIdeal Cert.ReferenceIdeal.Gen in (fun x v => Host.reduce (FloatOps.maximumf (F := Ideal)) x v reducesTo_S2048x1_S_d0_1 h_S_)) (ha := ⟨by decide, rfl⟩) (hb := ⟨by decide, rfl⟩) (hy := ⟨by decide, rfl⟩)
  rw [hk, hr, ← c_main_v200__main_v1298 hag hel, ← c_main_cst_43__main_cst_287 hag hel]

theorem c_main_cst_44__main_cst_288 : StableHlo.after Cert.KernelIdeal.Hand.KOps (Cert.KernelIdeal.Hand.Wl (F := Ideal) m ρ c) (Proc.devRef .tc Cert.KernelIdeal.main_cst_44) = StableHlo.after (Cert.ReferenceIdeal.Hand.ops (F := Ideal)) (StableHlo.launchContents m' c) (Proc.devRef .tc Cert.ReferenceIdeal.main_cst_288) := by
  have hk := StableHlo.Ascending.eq_nullary Cert.KernelIdeal.Hand.KOps_asc (Cert.KernelIdeal.Hand.Wl m ρ c) (Cert.KernelIdeal.Hand.mem_KOps_st7 (Cert.KernelIdeal.Hand.mem_st_7_8 (List.getElem_mem (l := Cert.KernelIdeal.GenP.hostOps7_8 (F := Ideal)) (n := 6) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part27 (List.getElem_mem (l := Cert.ReferenceIdeal.Hand.ops_part27 (F := Ideal)) (n := 47) (by decide))) rfl (hy := ⟨by decide, rfl⟩)
  rw [hk, hr]

theorem c_main_v262__main_v1357 : StableHlo.after Cert.KernelIdeal.Hand.KOps (Cert.KernelIdeal.Hand.Wl (F := Ideal) m ρ c) (Proc.devRef .tc Cert.KernelIdeal.main_v262) = StableHlo.after (Cert.ReferenceIdeal.Hand.ops (F := Ideal)) (StableHlo.launchContents m' c) (Proc.devRef .tc Cert.ReferenceIdeal.main_v1357) := by
  have hk := StableHlo.Ascending.eq_binary Cert.KernelIdeal.Hand.KOps_asc (Cert.KernelIdeal.Hand.Wl m ρ c) (Cert.KernelIdeal.Hand.mem_KOps_st7 (Cert.KernelIdeal.Hand.mem_st_7_8 (List.getElem_mem (l := Cert.KernelIdeal.GenP.hostOps7_8 (F := Ideal)) (n := 7) (by decide)))) rfl rfl rfl (by decide) (by decide) (a := Cert.KernelIdeal.main_v200) (b := Cert.KernelIdeal.main_cst_44) (y := Cert.KernelIdeal.main_v262) (f := open Cert.KernelIdeal Cert.KernelIdeal.Gen in (fun x v => Host.reduce (FloatOps.minimumf (F := Ideal)) x v reducesTo_S2048x1_S_d0_1 h_S_)) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part27 (List.getElem_mem (l := Cert.ReferenceIdeal.Hand.ops_part27 (F := Ideal)) (n := 48) (by decide))) rfl rfl rfl (by decide) (by decide) (a := Cert.ReferenceIdeal.main_v1298) (b := Cert.ReferenceIdeal.main_cst_288) (y := Cert.ReferenceIdeal.main_v1357) (f := open Cert.ReferenceIdeal Cert.ReferenceIdeal.Gen in (fun x v => Host.reduce (FloatOps.minimumf (F := Ideal)) x v reducesTo_S2048x1_S_d0_1 h_S_)) (ha := ⟨by decide, rfl⟩) (hb := ⟨by decide, rfl⟩) (hy := ⟨by decide, rfl⟩)
  rw [hk, hr, ← c_main_v200__main_v1298 hag hel, ← c_main_cst_44__main_cst_288 hag hel]

theorem c_main_v263__main_v1358 : StableHlo.after Cert.KernelIdeal.Hand.KOps (Cert.KernelIdeal.Hand.Wl (F := Ideal) m ρ c) (Proc.devRef .tc Cert.KernelIdeal.main_v263) = StableHlo.after (Cert.ReferenceIdeal.Hand.ops (F := Ideal)) (StableHlo.launchContents m' c) (Proc.devRef .tc Cert.ReferenceIdeal.main_v1358) := by
  have hk := StableHlo.Ascending.eq_binary Cert.KernelIdeal.Hand.KOps_asc (Cert.KernelIdeal.Hand.Wl m ρ c) (Cert.KernelIdeal.Hand.mem_KOps_st7 (Cert.KernelIdeal.Hand.mem_st_7_8 (List.getElem_mem (l := Cert.KernelIdeal.GenP.hostOps7_8 (F := Ideal)) (n := 8) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part27 (List.getElem_mem (l := Cert.ReferenceIdeal.Hand.ops_part27 (F := Ideal)) (n := 49) (by decide))) rfl rfl rfl (by decide) (by decide) (ha := ⟨by decide, rfl⟩) (hb := ⟨by decide, rfl⟩) (hy := ⟨by decide, rfl⟩)
  rw [hk, hr, ← c_main_v261__main_v1356 hag hel, ← c_main_v262__main_v1357 hag hel]

theorem c_main_v264__main_v1359 : StableHlo.after Cert.KernelIdeal.Hand.KOps (Cert.KernelIdeal.Hand.Wl (F := Ideal) m ρ c) (Proc.devRef .tc Cert.KernelIdeal.main_v264) = StableHlo.after (Cert.ReferenceIdeal.Hand.ops (F := Ideal)) (StableHlo.launchContents m' c) (Proc.devRef .tc Cert.ReferenceIdeal.main_v1359) := by
  have hk := StableHlo.Ascending.eq_unary Cert.KernelIdeal.Hand.KOps_asc (Cert.KernelIdeal.Hand.Wl m ρ c) (Cert.KernelIdeal.Hand.mem_KOps_st7 (Cert.KernelIdeal.Hand.mem_st_7_8 (List.getElem_mem (l := Cert.KernelIdeal.GenP.hostOps7_8 (F := Ideal)) (n := 9) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part27 (List.getElem_mem (l := Cert.ReferenceIdeal.Hand.ops_part27 (F := Ideal)) (n := 50) (by decide))) rfl rfl (by decide) (hx := ⟨by decide, rfl⟩) (hy := ⟨by decide, rfl⟩)
  rw [hk, hr, ← c_main_v263__main_v1358 hag hel]

theorem c_main_v265__main_v1360 : StableHlo.after Cert.KernelIdeal.Hand.KOps (Cert.KernelIdeal.Hand.Wl (F := Ideal) m ρ c) (Proc.devRef .tc Cert.KernelIdeal.main_v265) = StableHlo.after (Cert.ReferenceIdeal.Hand.ops (F := Ideal)) (StableHlo.launchContents m' c) (Proc.devRef .tc Cert.ReferenceIdeal.main_v1360) := by
  have hk := StableHlo.Ascending.eq_binary Cert.KernelIdeal.Hand.KOps_asc (Cert.KernelIdeal.Hand.Wl m ρ c) (Cert.KernelIdeal.Hand.mem_KOps_st7 (Cert.KernelIdeal.Hand.mem_st_7_8 (List.getElem_mem (l := Cert.KernelIdeal.GenP.hostOps7_8 (F := Ideal)) (n := 10) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part27 (List.getElem_mem (l := Cert.ReferenceIdeal.Hand.ops_part27 (F := Ideal)) (n := 51) (by decide))) rfl rfl rfl (by decide) (by decide) (ha := ⟨by decide, rfl⟩) (hb := ⟨by decide, rfl⟩) (hy := ⟨by decide, rfl⟩)
  rw [hk, hr, ← c_main_v260__main_v1355 hag hel, ← c_main_v264__main_v1359 hag hel]

theorem c_main_cst_45__main_cst_289 : StableHlo.after Cert.KernelIdeal.Hand.KOps (Cert.KernelIdeal.Hand.Wl (F := Ideal) m ρ c) (Proc.devRef .tc Cert.KernelIdeal.main_cst_45) = StableHlo.after (Cert.ReferenceIdeal.Hand.ops (F := Ideal)) (StableHlo.launchContents m' c) (Proc.devRef .tc Cert.ReferenceIdeal.main_cst_289) := by
  have hk := StableHlo.Ascending.eq_nullary Cert.KernelIdeal.Hand.KOps_asc (Cert.KernelIdeal.Hand.Wl m ρ c) (Cert.KernelIdeal.Hand.mem_KOps_st7 (Cert.KernelIdeal.Hand.mem_st_7_8 (List.getElem_mem (l := Cert.KernelIdeal.GenP.hostOps7_8 (F := Ideal)) (n := 11) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part27 (List.getElem_mem (l := Cert.ReferenceIdeal.Hand.ops_part27 (F := Ideal)) (n := 52) (by decide))) rfl (hy := ⟨by decide, rfl⟩)
  rw [hk, hr]

theorem c_main_v266__main_v1361 : StableHlo.after Cert.KernelIdeal.Hand.KOps (Cert.KernelIdeal.Hand.Wl (F := Ideal) m ρ c) (Proc.devRef .tc Cert.KernelIdeal.main_v266) = StableHlo.after (Cert.ReferenceIdeal.Hand.ops (F := Ideal)) (StableHlo.launchContents m' c) (Proc.devRef .tc Cert.ReferenceIdeal.main_v1361) := by
  have hk := StableHlo.Ascending.eq_binary Cert.KernelIdeal.Hand.KOps_asc (Cert.KernelIdeal.Hand.Wl m ρ c) (Cert.KernelIdeal.Hand.mem_KOps_st7 (Cert.KernelIdeal.Hand.mem_st_7_8 (List.getElem_mem (l := Cert.KernelIdeal.GenP.hostOps7_8 (F := Ideal)) (n := 12) (by decide)))) rfl rfl rfl (by decide) (by decide) (a := Cert.KernelIdeal.main_v257) (b := Cert.KernelIdeal.main_cst_45) (y := Cert.KernelIdeal.main_v266) (f := open Cert.KernelIdeal Cert.KernelIdeal.Gen in (fun x v => Host.reduce (FloatOps.maximumf (F := Ideal)) x v reducesTo_S2048x2048_S_d0_1 h_S_)) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part27 (List.getElem_mem (l := Cert.ReferenceIdeal.Hand.ops_part27 (F := Ideal)) (n := 53) (by decide))) rfl rfl rfl (by decide) (by decide) (a := Cert.ReferenceIdeal.main_v1352) (b := Cert.ReferenceIdeal.main_cst_289) (y := Cert.ReferenceIdeal.main_v1361) (f := open Cert.ReferenceIdeal Cert.ReferenceIdeal.Gen in (fun x v => Host.reduce (FloatOps.maximumf (F := Ideal)) x v reducesTo_S2048x2048_S_d0_1 h_S_)) (ha := ⟨by decide, rfl⟩) (hb := ⟨by decide, rfl⟩) (hy := ⟨by decide, rfl⟩)
  rw [hk, hr, ← c_main_v257__main_v1352 hag hel, ← c_main_cst_45__main_cst_289 hag hel]

theorem c_main_v267__main_v1362 : StableHlo.after Cert.KernelIdeal.Hand.KOps (Cert.KernelIdeal.Hand.Wl (F := Ideal) m ρ c) (Proc.devRef .tc Cert.KernelIdeal.main_v267) = StableHlo.after (Cert.ReferenceIdeal.Hand.ops (F := Ideal)) (StableHlo.launchContents m' c) (Proc.devRef .tc Cert.ReferenceIdeal.main_v1362) := by
  have hk := StableHlo.Ascending.eq_unary Cert.KernelIdeal.Hand.KOps_asc (Cert.KernelIdeal.Hand.Wl m ρ c) (Cert.KernelIdeal.Hand.mem_KOps_st7 (Cert.KernelIdeal.Hand.mem_st_7_8 (List.getElem_mem (l := Cert.KernelIdeal.GenP.hostOps7_8 (F := Ideal)) (n := 13) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part27 (List.getElem_mem (l := Cert.ReferenceIdeal.Hand.ops_part27 (F := Ideal)) (n := 54) (by decide))) rfl rfl (by decide) (hx := ⟨by decide, rfl⟩) (hy := ⟨by decide, rfl⟩)
  rw [hk, hr, ← c_main_v266__main_v1361 hag hel]

theorem c_main_v268__main_v1363 : StableHlo.after Cert.KernelIdeal.Hand.KOps (Cert.KernelIdeal.Hand.Wl (F := Ideal) m ρ c) (Proc.devRef .tc Cert.KernelIdeal.main_v268) = StableHlo.after (Cert.ReferenceIdeal.Hand.ops (F := Ideal)) (StableHlo.launchContents m' c) (Proc.devRef .tc Cert.ReferenceIdeal.main_v1363) := by
  have hk := StableHlo.Ascending.eq_binary Cert.KernelIdeal.Hand.KOps_asc (Cert.KernelIdeal.Hand.Wl m ρ c) (Cert.KernelIdeal.Hand.mem_KOps_st7 (Cert.KernelIdeal.Hand.mem_st_7_8 (List.getElem_mem (l := Cert.KernelIdeal.GenP.hostOps7_8 (F := Ideal)) (n := 14) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part27 (List.getElem_mem (l := Cert.ReferenceIdeal.Hand.ops_part27 (F := Ideal)) (n := 55) (by decide))) rfl rfl rfl (by decide) (by decide) (ha := ⟨by decide, rfl⟩) (hb := ⟨by decide, rfl⟩) (hy := ⟨by decide, rfl⟩)
  rw [hk, hr, ← c_main_v265__main_v1360 hag hel, ← c_main_v267__main_v1362 hag hel]

theorem c_main_cst_46__main_cst_290 : StableHlo.after Cert.KernelIdeal.Hand.KOps (Cert.KernelIdeal.Hand.Wl (F := Ideal) m ρ c) (Proc.devRef .tc Cert.KernelIdeal.main_cst_46) = StableHlo.after (Cert.ReferenceIdeal.Hand.ops (F := Ideal)) (StableHlo.launchContents m' c) (Proc.devRef .tc Cert.ReferenceIdeal.main_cst_290) := by
  have hk := StableHlo.Ascending.eq_nullary Cert.KernelIdeal.Hand.KOps_asc (Cert.KernelIdeal.Hand.Wl m ρ c) (Cert.KernelIdeal.Hand.mem_KOps_st7 (Cert.KernelIdeal.Hand.mem_st_7_8 (List.getElem_mem (l := Cert.KernelIdeal.GenP.hostOps7_8 (F := Ideal)) (n := 15) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part27 (List.getElem_mem (l := Cert.ReferenceIdeal.Hand.ops_part27 (F := Ideal)) (n := 56) (by decide))) rfl (hy := ⟨by decide, rfl⟩)
  rw [hk, hr]

theorem c_main_v269__main_v1364 : StableHlo.after Cert.KernelIdeal.Hand.KOps (Cert.KernelIdeal.Hand.Wl (F := Ideal) m ρ c) (Proc.devRef .tc Cert.KernelIdeal.main_v269) = StableHlo.after (Cert.ReferenceIdeal.Hand.ops (F := Ideal)) (StableHlo.launchContents m' c) (Proc.devRef .tc Cert.ReferenceIdeal.main_v1364) := by
  have hk := StableHlo.Ascending.eq_unary Cert.KernelIdeal.Hand.KOps_asc (Cert.KernelIdeal.Hand.Wl m ρ c) (Cert.KernelIdeal.Hand.mem_KOps_st7 (Cert.KernelIdeal.Hand.mem_st_7_8 (List.getElem_mem (l := Cert.KernelIdeal.GenP.hostOps7_8 (F := Ideal)) (n := 16) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part27 (List.getElem_mem (l := Cert.ReferenceIdeal.Hand.ops_part27 (F := Ideal)) (n := 57) (by decide))) rfl rfl (by decide) (hx := ⟨by decide, rfl⟩) (hy := ⟨by decide, rfl⟩)
  rw [hk, hr, ← c_main_cst_46__main_cst_290 hag hel]

theorem c_main_v270__main_v1365 : StableHlo.after Cert.KernelIdeal.Hand.KOps (Cert.KernelIdeal.Hand.Wl (F := Ideal) m ρ c) (Proc.devRef .tc Cert.KernelIdeal.main_v270) = StableHlo.after (Cert.ReferenceIdeal.Hand.ops (F := Ideal)) (StableHlo.launchContents m' c) (Proc.devRef .tc Cert.ReferenceIdeal.main_v1365) := by
  have hk := StableHlo.Ascending.eq_binary Cert.KernelIdeal.Hand.KOps_asc (Cert.KernelIdeal.Hand.Wl m ρ c) (Cert.KernelIdeal.Hand.mem_KOps_st7 (Cert.KernelIdeal.Hand.mem_st_7_8 (List.getElem_mem (l := Cert.KernelIdeal.GenP.hostOps7_8 (F := Ideal)) (n := 17) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part27 (List.getElem_mem (l := Cert.ReferenceIdeal.Hand.ops_part27 (F := Ideal)) (n := 58) (by decide))) rfl rfl rfl (by decide) (by decide) (ha := ⟨by decide, rfl⟩) (hb := ⟨by decide, rfl⟩) (hy := ⟨by decide, rfl⟩)
  rw [hk, hr, ← c_main_v24__main_v1341 hag hel, ← c_main_v269__main_v1364 hag hel]

theorem c_main_v271__main_v1366 : StableHlo.after Cert.KernelIdeal.Hand.KOps (Cert.KernelIdeal.Hand.Wl (F := Ideal) m ρ c) (Proc.devRef .tc Cert.KernelIdeal.main_v271) = StableHlo.after (Cert.ReferenceIdeal.Hand.ops (F := Ideal)) (StableHlo.launchContents m' c) (Proc.devRef .tc Cert.ReferenceIdeal.main_v1366) := by
  have hk := StableHlo.Ascending.eq_unary Cert.KernelIdeal.Hand.KOps_asc (Cert.KernelIdeal.Hand.Wl m ρ c) (Cert.KernelIdeal.Hand.mem_KOps_st7 (Cert.KernelIdeal.Hand.mem_st_7_8 (List.getElem_mem (l := Cert.KernelIdeal.GenP.hostOps7_8 (F := Ideal)) (n := 18) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part27 (List.getElem_mem (l := Cert.ReferenceIdeal.Hand.ops_part27 (F := Ideal)) (n := 59) (by decide))) rfl rfl (by decide) (hx := ⟨by decide, rfl⟩) (hy := ⟨by decide, rfl⟩)
  rw [hk, hr, ← c_main_v268__main_v1363 hag hel]

theorem c_main_v272__main_v1367 : StableHlo.after Cert.KernelIdeal.Hand.KOps (Cert.KernelIdeal.Hand.Wl (F := Ideal) m ρ c) (Proc.devRef .tc Cert.KernelIdeal.main_v272) = StableHlo.after (Cert.ReferenceIdeal.Hand.ops (F := Ideal)) (StableHlo.launchContents m' c) (Proc.devRef .tc Cert.ReferenceIdeal.main_v1367) := by
  have hk := StableHlo.Ascending.eq_binary Cert.KernelIdeal.Hand.KOps_asc (Cert.KernelIdeal.Hand.Wl m ρ c) (Cert.KernelIdeal.Hand.mem_KOps_st7 (Cert.KernelIdeal.Hand.mem_st_7_8 (List.getElem_mem (l := Cert.KernelIdeal.GenP.hostOps7_8 (F := Ideal)) (n := 19) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part27 (List.getElem_mem (l := Cert.ReferenceIdeal.Hand.ops_part27 (F := Ideal)) (n := 60) (by decide))) rfl rfl rfl (by decide) (by decide) (ha := ⟨by decide, rfl⟩) (hb := ⟨by decide, rfl⟩) (hy := ⟨by decide, rfl⟩)
  rw [hk, hr, ← c_main_v257__main_v1352 hag hel, ← c_main_v271__main_v1366 hag hel]

theorem c_main_cst_47__main_cst_291 : StableHlo.after Cert.KernelIdeal.Hand.KOps (Cert.KernelIdeal.Hand.Wl (F := Ideal) m ρ c) (Proc.devRef .tc Cert.KernelIdeal.main_cst_47) = StableHlo.after (Cert.ReferenceIdeal.Hand.ops (F := Ideal)) (StableHlo.launchContents m' c) (Proc.devRef .tc Cert.ReferenceIdeal.main_cst_291) := by
  have hk := StableHlo.Ascending.eq_nullary Cert.KernelIdeal.Hand.KOps_asc (Cert.KernelIdeal.Hand.Wl m ρ c) (Cert.KernelIdeal.Hand.mem_KOps_st7 (Cert.KernelIdeal.Hand.mem_st_7_8 (List.getElem_mem (l := Cert.KernelIdeal.GenP.hostOps7_8 (F := Ideal)) (n := 20) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part27 (List.getElem_mem (l := Cert.ReferenceIdeal.Hand.ops_part27 (F := Ideal)) (n := 61) (by decide))) rfl (hy := ⟨by decide, rfl⟩)
  rw [hk, hr]

theorem c_main_call5_v0__main_call61_v0 : StableHlo.after Cert.KernelIdeal.Hand.KOps (Cert.KernelIdeal.Hand.Wl (F := Ideal) m ρ c) (Proc.devRef .tc Cert.KernelIdeal.main_call5_v0) = StableHlo.after (Cert.ReferenceIdeal.Hand.ops (F := Ideal)) (StableHlo.launchContents m' c) (Proc.devRef .tc Cert.ReferenceIdeal.main_call61_v0) := by
  have hk := StableHlo.Ascending.eq_unary Cert.KernelIdeal.Hand.KOps_asc (Cert.KernelIdeal.Hand.Wl m ρ c) (Cert.KernelIdeal.Hand.mem_KOps_st7 (Cert.KernelIdeal.Hand.mem_st_7_9 (List.getElem_mem (l := Cert.KernelIdeal.GenP.hostOps7_9 (F := Ideal)) (n := 0) (by decide)))) rfl rfl (by decide) (x := Cert.KernelIdeal.main_cst_47) (y := Cert.KernelIdeal.main_call5_v0) (f := open Cert.KernelIdeal Cert.KernelIdeal.Gen in id) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part27 (List.getElem_mem (l := Cert.ReferenceIdeal.Hand.ops_part27 (F := Ideal)) (n := 62) (by decide))) rfl rfl (by decide) (x := Cert.ReferenceIdeal.main_cst_291) (y := Cert.ReferenceIdeal.main_call61_v0) (f := open Cert.ReferenceIdeal Cert.ReferenceIdeal.Gen in id) (hx := ⟨by decide, rfl⟩) (hy := ⟨by decide, rfl⟩)
  rw [hk, hr, ← c_main_cst_47__main_cst_291 hag hel]

theorem c_main_call5_v1__main_call61_v1 : StableHlo.after Cert.KernelIdeal.Hand.KOps (Cert.KernelIdeal.Hand.Wl (F := Ideal) m ρ c) (Proc.devRef .tc Cert.KernelIdeal.main_call5_v1) = StableHlo.after (Cert.ReferenceIdeal.Hand.ops (F := Ideal)) (StableHlo.launchContents m' c) (Proc.devRef .tc Cert.ReferenceIdeal.main_call61_v1) := by
  have hk := StableHlo.Ascending.eq_unary Cert.KernelIdeal.Hand.KOps_asc (Cert.KernelIdeal.Hand.Wl m ρ c) (Cert.KernelIdeal.Hand.mem_KOps_st7 (Cert.KernelIdeal.Hand.mem_st_7_9 (List.getElem_mem (l := Cert.KernelIdeal.GenP.hostOps7_9 (F := Ideal)) (n := 1) (by decide)))) rfl rfl (by decide) (x := Cert.KernelIdeal.main_call5_v0) (y := Cert.KernelIdeal.main_call5_v1) (f := open Cert.KernelIdeal Cert.KernelIdeal.Gen in (broadcastInDim S2048x2048 ![] bcast_S_S2048x2048)) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part27 (List.getElem_mem (l := Cert.ReferenceIdeal.Hand.ops_part27 (F := Ideal)) (n := 63) (by decide))) rfl rfl (by decide) (x := Cert.ReferenceIdeal.main_call61_v0) (y := Cert.ReferenceIdeal.main_call61_v1) (f := open Cert.ReferenceIdeal Cert.ReferenceIdeal.Gen in (broadcastInDim S2048x2048 ![] bcast_S_S2048x2048)) (hx := ⟨by decide, rfl⟩) (hy := ⟨by decide, rfl⟩)
  rw [hk, hr, ← c_main_call5_v0__main_call61_v0 hag hel]

theorem c_main_v273__main_v1368 : StableHlo.after Cert.KernelIdeal.Hand.KOps (Cert.KernelIdeal.Hand.Wl (F := Ideal) m ρ c) (Proc.devRef .tc Cert.KernelIdeal.main_v273) = StableHlo.after (Cert.ReferenceIdeal.Hand.ops (F := Ideal)) (StableHlo.launchContents m' c) (Proc.devRef .tc Cert.ReferenceIdeal.main_v1368) := by
  have hk := StableHlo.Ascending.eq_ternary Cert.KernelIdeal.Hand.KOps_asc (Cert.KernelIdeal.Hand.Wl m ρ c) (Cert.KernelIdeal.Hand.mem_KOps_st7 (Cert.KernelIdeal.Hand.mem_st_7_9 (List.getElem_mem (l := Cert.KernelIdeal.GenP.hostOps7_9 (F := Ideal)) (n := 2) (by decide)))) rfl rfl rfl rfl (by decide) (by decide) (by decide) (c := Cert.KernelIdeal.main_v270) (a := Cert.KernelIdeal.main_v272) (b := Cert.KernelIdeal.main_call5_v1) (y := Cert.KernelIdeal.main_v273) (f := (select : (⟨Cert.KernelIdeal.S2048x2048, .i1⟩ : BufTy).Contents (Elt Ideal) → (⟨Cert.KernelIdeal.S2048x2048, .f32⟩ : BufTy).Contents (Elt Ideal) → (⟨Cert.KernelIdeal.S2048x2048, .f32⟩ : BufTy).Contents (Elt Ideal) → (⟨Cert.KernelIdeal.S2048x2048, .f32⟩ : BufTy).Contents (Elt Ideal))) (hc := ⟨by decide, rfl⟩) (ha := ⟨by decide, rfl⟩) (hb := ⟨by decide, rfl⟩) (hy := ⟨by decide, rfl⟩)
  have hr := StableHlo.Ascending.eq_ternary (Cert.ReferenceIdeal.Hand.ops_asc (F := Ideal)) (StableHlo.launchContents m' c) (Cert.ReferenceIdeal.Hand.mem_ops_part27 (List.getElem_mem (l := Cert.ReferenceIdeal.Hand.ops_part27 (F := Ideal)) (n := 64) (by decide))) rfl rfl rfl rfl (by decide) (by decide) (by decide) (c := Cert.ReferenceIdeal.main_v1365) (a := Cert.ReferenceIdeal.main_v1367) (b := Cert.ReferenceIdeal.main_call61_v1) (y := Cert.ReferenceIdeal.main_v1368) (f := (select : (⟨Cert.ReferenceIdeal.S2048x2048, .i1⟩ : BufTy).Contents (Elt Ideal) → (⟨Cert.ReferenceIdeal.S2048x2048, .f32⟩ : BufTy).Contents (Elt Ideal) → (⟨Cert.ReferenceIdeal.S2048x2048, .f32⟩ : BufTy).Contents (Elt Ideal) → (⟨Cert.ReferenceIdeal.S2048x2048, .f32⟩ : BufTy).Contents (Elt Ideal))) (hc := ⟨by decide, rfl⟩) (ha := ⟨by decide, rfl⟩) (hb := ⟨by decide, rfl⟩) (hy := ⟨by decide, rfl⟩)
  rw [hk, hr, ← c_main_v270__main_v1365 hag hel, ← c_main_v272__main_v1367 hag hel, ← c_main_call5_v1__main_call61_v1 hag hel]

theorem c_main_cst_48__main_cst_292 : StableHlo.after Cert.KernelIdeal.Hand.KOps (Cert.KernelIdeal.Hand.Wl (F := Ideal) m ρ c) (Proc.devRef .tc Cert.KernelIdeal.main_cst_48) = StableHlo.after (Cert.ReferenceIdeal.Hand.ops (F := Ideal)) (StableHlo.launchContents m' c) (Proc.devRef .tc Cert.ReferenceIdeal.main_cst_292) := by
  have hk := StableHlo.Ascending.eq_nullary Cert.KernelIdeal.Hand.KOps_asc (Cert.KernelIdeal.Hand.Wl m ρ c) (Cert.KernelIdeal.Hand.mem_KOps_st7 (Cert.KernelIdeal.Hand.mem_st_7_10 (List.getElem_mem (l := Cert.KernelIdeal.GenP.hostOps7_10 (F := Ideal)) (n := 0) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part27 (List.getElem_mem (l := Cert.ReferenceIdeal.Hand.ops_part27 (F := Ideal)) (n := 65) (by decide))) rfl (hy := ⟨by decide, rfl⟩)
  rw [hk, hr]

theorem c_main_v274__main_v1369 : StableHlo.after Cert.KernelIdeal.Hand.KOps (Cert.KernelIdeal.Hand.Wl (F := Ideal) m ρ c) (Proc.devRef .tc Cert.KernelIdeal.main_v274) = StableHlo.after (Cert.ReferenceIdeal.Hand.ops (F := Ideal)) (StableHlo.launchContents m' c) (Proc.devRef .tc Cert.ReferenceIdeal.main_v1369) := by
  have hk := StableHlo.Ascending.eq_binary Cert.KernelIdeal.Hand.KOps_asc (Cert.KernelIdeal.Hand.Wl m ρ c) (Cert.KernelIdeal.Hand.mem_KOps_st7 (Cert.KernelIdeal.Hand.mem_st_7_10 (List.getElem_mem (l := Cert.KernelIdeal.GenP.hostOps7_10 (F := Ideal)) (n := 1) (by decide)))) rfl rfl rfl (by decide) (by decide) (a := Cert.KernelIdeal.main_v273) (b := Cert.KernelIdeal.main_cst_48) (y := Cert.KernelIdeal.main_v274) (f := open Cert.KernelIdeal Cert.KernelIdeal.Gen in (fun x v => Host.reduce (FloatOps.maximumf (F := Ideal)) x v reducesTo_S2048x2048_S2048_d1 h_S_)) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part27 (List.getElem_mem (l := Cert.ReferenceIdeal.Hand.ops_part27 (F := Ideal)) (n := 66) (by decide))) rfl rfl rfl (by decide) (by decide) (a := Cert.ReferenceIdeal.main_v1368) (b := Cert.ReferenceIdeal.main_cst_292) (y := Cert.ReferenceIdeal.main_v1369) (f := open Cert.ReferenceIdeal Cert.ReferenceIdeal.Gen in (fun x v => Host.reduce (FloatOps.maximumf (F := Ideal)) x v reducesTo_S2048x2048_S2048_d1 h_S_)) (ha := ⟨by decide, rfl⟩) (hb := ⟨by decide, rfl⟩) (hy := ⟨by decide, rfl⟩)
  rw [hk, hr, ← c_main_v273__main_v1368 hag hel, ← c_main_cst_48__main_cst_292 hag hel]

theorem c_main_cst_49__main_cst_293 : StableHlo.after Cert.KernelIdeal.Hand.KOps (Cert.KernelIdeal.Hand.Wl (F := Ideal) m ρ c) (Proc.devRef .tc Cert.KernelIdeal.main_cst_49) = StableHlo.after (Cert.ReferenceIdeal.Hand.ops (F := Ideal)) (StableHlo.launchContents m' c) (Proc.devRef .tc Cert.ReferenceIdeal.main_cst_293) := by
  have hk := StableHlo.Ascending.eq_nullary Cert.KernelIdeal.Hand.KOps_asc (Cert.KernelIdeal.Hand.Wl m ρ c) (Cert.KernelIdeal.Hand.mem_KOps_st7 (Cert.KernelIdeal.Hand.mem_st_7_10 (List.getElem_mem (l := Cert.KernelIdeal.GenP.hostOps7_10 (F := Ideal)) (n := 2) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part27 (List.getElem_mem (l := Cert.ReferenceIdeal.Hand.ops_part27 (F := Ideal)) (n := 67) (by decide))) rfl (hy := ⟨by decide, rfl⟩)
  rw [hk, hr]

theorem c_main_v275__main_v1370 : StableHlo.after Cert.KernelIdeal.Hand.KOps (Cert.KernelIdeal.Hand.Wl (F := Ideal) m ρ c) (Proc.devRef .tc Cert.KernelIdeal.main_v275) = StableHlo.after (Cert.ReferenceIdeal.Hand.ops (F := Ideal)) (StableHlo.launchContents m' c) (Proc.devRef .tc Cert.ReferenceIdeal.main_v1370) := by
  have hk := StableHlo.Ascending.eq_unary Cert.KernelIdeal.Hand.KOps_asc (Cert.KernelIdeal.Hand.Wl m ρ c) (Cert.KernelIdeal.Hand.mem_KOps_st7 (Cert.KernelIdeal.Hand.mem_st_7_10 (List.getElem_mem (l := Cert.KernelIdeal.GenP.hostOps7_10 (F := Ideal)) (n := 3) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part27 (List.getElem_mem (l := Cert.ReferenceIdeal.Hand.ops_part27 (F := Ideal)) (n := 68) (by decide))) rfl rfl (by decide) (hx := ⟨by decide, rfl⟩) (hy := ⟨by decide, rfl⟩)
  rw [hk, hr, ← c_main_cst_49__main_cst_293 hag hel]

theorem c_main_v276__main_v1371 : StableHlo.after Cert.KernelIdeal.Hand.KOps (Cert.KernelIdeal.Hand.Wl (F := Ideal) m ρ c) (Proc.devRef .tc Cert.KernelIdeal.main_v276) = StableHlo.after (Cert.ReferenceIdeal.Hand.ops (F := Ideal)) (StableHlo.launchContents m' c) (Proc.devRef .tc Cert.ReferenceIdeal.main_v1371) := by
  have hk := StableHlo.Ascending.eq_binary Cert.KernelIdeal.Hand.KOps_asc (Cert.KernelIdeal.Hand.Wl m ρ c) (Cert.KernelIdeal.Hand.mem_KOps_st7 (Cert.KernelIdeal.Hand.mem_st_7_10 (List.getElem_mem (l := Cert.KernelIdeal.GenP.hostOps7_10 (F := Ideal)) (n := 4) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part27 (List.getElem_mem (l := Cert.ReferenceIdeal.Hand.ops_part27 (F := Ideal)) (n := 69) (by decide))) rfl rfl rfl (by decide) (by decide) (ha := ⟨by decide, rfl⟩) (hb := ⟨by decide, rfl⟩) (hy := ⟨by decide, rfl⟩)
  rw [hk, hr, ← c_main_v275__main_v1370 hag hel, ← c_main_v274__main_v1369 hag hel]

theorem c_main_v277__main_v1372 : StableHlo.after Cert.KernelIdeal.Hand.KOps (Cert.KernelIdeal.Hand.Wl (F := Ideal) m ρ c) (Proc.devRef .tc Cert.KernelIdeal.main_v277) = StableHlo.after (Cert.ReferenceIdeal.Hand.ops (F := Ideal)) (StableHlo.launchContents m' c) (Proc.devRef .tc Cert.ReferenceIdeal.main_v1372) := by
  have hk := StableHlo.Ascending.eq_unary Cert.KernelIdeal.Hand.KOps_asc (Cert.KernelIdeal.Hand.Wl m ρ c) (Cert.KernelIdeal.Hand.mem_KOps_st7 (Cert.KernelIdeal.Hand.mem_st_7_10 (List.getElem_mem (l := Cert.KernelIdeal.GenP.hostOps7_10 (F := Ideal)) (n := 5) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part27 (List.getElem_mem (l := Cert.ReferenceIdeal.Hand.ops_part27 (F := Ideal)) (n := 70) (by decide))) rfl rfl (by decide) (hx := ⟨by decide, rfl⟩) (hy := ⟨by decide, rfl⟩)
  rw [hk, hr, ← c_main_v276__main_v1371 hag hel]

theorem c_main_v278__main_v1373 : StableHlo.after Cert.KernelIdeal.Hand.KOps (Cert.KernelIdeal.Hand.Wl (F := Ideal) m ρ c) (Proc.devRef .tc Cert.KernelIdeal.main_v278) = StableHlo.after (Cert.ReferenceIdeal.Hand.ops (F := Ideal)) (StableHlo.launchContents m' c) (Proc.devRef .tc Cert.ReferenceIdeal.main_v1373) := by
  have hk := StableHlo.Ascending.eq_unary Cert.KernelIdeal.Hand.KOps_asc (Cert.KernelIdeal.Hand.Wl m ρ c) (Cert.KernelIdeal.Hand.mem_KOps_st7 (Cert.KernelIdeal.Hand.mem_st_7_10 (List.getElem_mem (l := Cert.KernelIdeal.GenP.hostOps7_10 (F := Ideal)) (n := 6) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part27 (List.getElem_mem (l := Cert.ReferenceIdeal.Hand.ops_part27 (F := Ideal)) (n := 71) (by decide))) rfl rfl (by decide) (hx := ⟨by decide, rfl⟩) (hy := ⟨by decide, rfl⟩)
  rw [hk, hr, ← c_main_v277__main_v1372 hag hel]

theorem c_main_v279__main_v1374 : StableHlo.after Cert.KernelIdeal.Hand.KOps (Cert.KernelIdeal.Hand.Wl (F := Ideal) m ρ c) (Proc.devRef .tc Cert.KernelIdeal.main_v279) = StableHlo.after (Cert.ReferenceIdeal.Hand.ops (F := Ideal)) (StableHlo.launchContents m' c) (Proc.devRef .tc Cert.ReferenceIdeal.main_v1374) := by
  have hk := StableHlo.Ascending.eq_binary Cert.KernelIdeal.Hand.KOps_asc (Cert.KernelIdeal.Hand.Wl m ρ c) (Cert.KernelIdeal.Hand.mem_KOps_st7 (Cert.KernelIdeal.Hand.mem_st_7_10 (List.getElem_mem (l := Cert.KernelIdeal.GenP.hostOps7_10 (F := Ideal)) (n := 7) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part27 (List.getElem_mem (l := Cert.ReferenceIdeal.Hand.ops_part27 (F := Ideal)) (n := 72) (by decide))) rfl rfl rfl (by decide) (by decide) (ha := ⟨by decide, rfl⟩) (hb := ⟨by decide, rfl⟩) (hy := ⟨by decide, rfl⟩)
  rw [hk, hr, ← c_main_v273__main_v1368 hag hel, ← c_main_v278__main_v1373 hag hel]

theorem c_main_v280__main_v1375 : StableHlo.after Cert.KernelIdeal.Hand.KOps (Cert.KernelIdeal.Hand.Wl (F := Ideal) m ρ c) (Proc.devRef .tc Cert.KernelIdeal.main_v280) = StableHlo.after (Cert.ReferenceIdeal.Hand.ops (F := Ideal)) (StableHlo.launchContents m' c) (Proc.devRef .tc Cert.ReferenceIdeal.main_v1375) := by
  have hk := StableHlo.Ascending.eq_unary Cert.KernelIdeal.Hand.KOps_asc (Cert.KernelIdeal.Hand.Wl m ρ c) (Cert.KernelIdeal.Hand.mem_KOps_st7 (Cert.KernelIdeal.Hand.mem_st_7_10 (List.getElem_mem (l := Cert.KernelIdeal.GenP.hostOps7_10 (F := Ideal)) (n := 8) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part27 (List.getElem_mem (l := Cert.ReferenceIdeal.Hand.ops_part27 (F := Ideal)) (n := 73) (by decide))) rfl rfl (by decide) (hx := ⟨by decide, rfl⟩) (hy := ⟨by decide, rfl⟩)
  rw [hk, hr, ← c_main_v279__main_v1374 hag hel]

theorem c_main_cst_50__main_cst_294 : StableHlo.after Cert.KernelIdeal.Hand.KOps (Cert.KernelIdeal.Hand.Wl (F := Ideal) m ρ c) (Proc.devRef .tc Cert.KernelIdeal.main_cst_50) = StableHlo.after (Cert.ReferenceIdeal.Hand.ops (F := Ideal)) (StableHlo.launchContents m' c) (Proc.devRef .tc Cert.ReferenceIdeal.main_cst_294) := by
  have hk := StableHlo.Ascending.eq_nullary Cert.KernelIdeal.Hand.KOps_asc (Cert.KernelIdeal.Hand.Wl m ρ c) (Cert.KernelIdeal.Hand.mem_KOps_st7 (Cert.KernelIdeal.Hand.mem_st_7_10 (List.getElem_mem (l := Cert.KernelIdeal.GenP.hostOps7_10 (F := Ideal)) (n := 9) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part27 (List.getElem_mem (l := Cert.ReferenceIdeal.Hand.ops_part27 (F := Ideal)) (n := 74) (by decide))) rfl (hy := ⟨by decide, rfl⟩)
  rw [hk, hr]

theorem c_main_v281__main_v1376 : StableHlo.after Cert.KernelIdeal.Hand.KOps (Cert.KernelIdeal.Hand.Wl (F := Ideal) m ρ c) (Proc.devRef .tc Cert.KernelIdeal.main_v281) = StableHlo.after (Cert.ReferenceIdeal.Hand.ops (F := Ideal)) (StableHlo.launchContents m' c) (Proc.devRef .tc Cert.ReferenceIdeal.main_v1376) := by
  have hk := StableHlo.Ascending.eq_binary Cert.KernelIdeal.Hand.KOps_asc (Cert.KernelIdeal.Hand.Wl m ρ c) (Cert.KernelIdeal.Hand.mem_KOps_st7 (Cert.KernelIdeal.Hand.mem_st_7_10 (List.getElem_mem (l := Cert.KernelIdeal.GenP.hostOps7_10 (F := Ideal)) (n := 10) (by decide)))) rfl rfl rfl (by decide) (by decide) (a := Cert.KernelIdeal.main_v280) (b := Cert.KernelIdeal.main_cst_50) (y := Cert.KernelIdeal.main_v281) (f := open Cert.KernelIdeal Cert.KernelIdeal.Gen in (fun x v => Host.reduceAdd (F := Ideal) x v reducesTo_S2048x2048_S2048_d1 h_S_)) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part27 (List.getElem_mem (l := Cert.ReferenceIdeal.Hand.ops_part27 (F := Ideal)) (n := 75) (by decide))) rfl rfl rfl (by decide) (by decide) (a := Cert.ReferenceIdeal.main_v1375) (b := Cert.ReferenceIdeal.main_cst_294) (y := Cert.ReferenceIdeal.main_v1376) (f := open Cert.ReferenceIdeal Cert.ReferenceIdeal.Gen in (fun x v => Host.reduceAdd (F := Ideal) x v reducesTo_S2048x2048_S2048_d1 h_S_)) (ha := ⟨by decide, rfl⟩) (hb := ⟨by decide, rfl⟩) (hy := ⟨by decide, rfl⟩)
  rw [hk, hr, ← c_main_v280__main_v1375 hag hel, ← c_main_cst_50__main_cst_294 hag hel]

theorem c_main_v282__main_v1377 : StableHlo.after Cert.KernelIdeal.Hand.KOps (Cert.KernelIdeal.Hand.Wl (F := Ideal) m ρ c) (Proc.devRef .tc Cert.KernelIdeal.main_v282) = StableHlo.after (Cert.ReferenceIdeal.Hand.ops (F := Ideal)) (StableHlo.launchContents m' c) (Proc.devRef .tc Cert.ReferenceIdeal.main_v1377) := by
  have hk := StableHlo.Ascending.eq_unary Cert.KernelIdeal.Hand.KOps_asc (Cert.KernelIdeal.Hand.Wl m ρ c) (Cert.KernelIdeal.Hand.mem_KOps_st7 (Cert.KernelIdeal.Hand.mem_st_7_10 (List.getElem_mem (l := Cert.KernelIdeal.GenP.hostOps7_10 (F := Ideal)) (n := 11) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part27 (List.getElem_mem (l := Cert.ReferenceIdeal.Hand.ops_part27 (F := Ideal)) (n := 76) (by decide))) rfl rfl (by decide) (hx := ⟨by decide, rfl⟩) (hy := ⟨by decide, rfl⟩)
  rw [hk, hr, ← c_main_v281__main_v1376 hag hel]

theorem c_main_v283__main_v1378 : StableHlo.after Cert.KernelIdeal.Hand.KOps (Cert.KernelIdeal.Hand.Wl (F := Ideal) m ρ c) (Proc.devRef .tc Cert.KernelIdeal.main_v283) = StableHlo.after (Cert.ReferenceIdeal.Hand.ops (F := Ideal)) (StableHlo.launchContents m' c) (Proc.devRef .tc Cert.ReferenceIdeal.main_v1378) := by
  have hk := StableHlo.Ascending.eq_unary Cert.KernelIdeal.Hand.KOps_asc (Cert.KernelIdeal.Hand.Wl m ρ c) (Cert.KernelIdeal.Hand.mem_KOps_st7 (Cert.KernelIdeal.Hand.mem_st_7_10 (List.getElem_mem (l := Cert.KernelIdeal.GenP.hostOps7_10 (F := Ideal)) (n := 12) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part27 (List.getElem_mem (l := Cert.ReferenceIdeal.Hand.ops_part27 (F := Ideal)) (n := 77) (by decide))) rfl rfl (by decide) (hx := ⟨by decide, rfl⟩) (hy := ⟨by decide, rfl⟩)
  rw [hk, hr, ← c_main_v282__main_v1377 hag hel]

theorem c_main_v284__main_v1379 : StableHlo.after Cert.KernelIdeal.Hand.KOps (Cert.KernelIdeal.Hand.Wl (F := Ideal) m ρ c) (Proc.devRef .tc Cert.KernelIdeal.main_v284) = StableHlo.after (Cert.ReferenceIdeal.Hand.ops (F := Ideal)) (StableHlo.launchContents m' c) (Proc.devRef .tc Cert.ReferenceIdeal.main_v1379) := by
  have hk := StableHlo.Ascending.eq_binary Cert.KernelIdeal.Hand.KOps_asc (Cert.KernelIdeal.Hand.Wl m ρ c) (Cert.KernelIdeal.Hand.mem_KOps_st7 (Cert.KernelIdeal.Hand.mem_st_7_10 (List.getElem_mem (l := Cert.KernelIdeal.GenP.hostOps7_10 (F := Ideal)) (n := 13) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part27 (List.getElem_mem (l := Cert.ReferenceIdeal.Hand.ops_part27 (F := Ideal)) (n := 78) (by decide))) rfl rfl rfl (by decide) (by decide) (ha := ⟨by decide, rfl⟩) (hb := ⟨by decide, rfl⟩) (hy := ⟨by decide, rfl⟩)
  rw [hk, hr, ← c_main_v280__main_v1375 hag hel, ← c_main_v283__main_v1378 hag hel]

theorem c_main_v285__main_v1380 : StableHlo.after Cert.KernelIdeal.Hand.KOps (Cert.KernelIdeal.Hand.Wl (F := Ideal) m ρ c) (Proc.devRef .tc Cert.KernelIdeal.main_v285) = StableHlo.after (Cert.ReferenceIdeal.Hand.ops (F := Ideal)) (StableHlo.launchContents m' c) (Proc.devRef .tc Cert.ReferenceIdeal.main_v1380) := by
  have hk := StableHlo.Ascending.eq_unary Cert.KernelIdeal.Hand.KOps_asc (Cert.KernelIdeal.Hand.Wl m ρ c) (Cert.KernelIdeal.Hand.mem_KOps_st7 (Cert.KernelIdeal.Hand.mem_st_7_10 (List.getElem_mem (l := Cert.KernelIdeal.GenP.hostOps7_10 (F := Ideal)) (n := 14) (by decide)))) rfl rfl (by decide) (x := Cert.KernelIdeal.main_v284) (y := Cert.KernelIdeal.main_v285) (f := open Cert.KernelIdeal Cert.KernelIdeal.Gen in (transpose S2048x2048 [1, 0] · transposes_S2048x2048_S2048x2048_1_0)) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part27 (List.getElem_mem (l := Cert.ReferenceIdeal.Hand.ops_part27 (F := Ideal)) (n := 79) (by decide))) rfl rfl (by decide) (x := Cert.ReferenceIdeal.main_v1379) (y := Cert.ReferenceIdeal.main_v1380) (f := open Cert.ReferenceIdeal Cert.ReferenceIdeal.Gen in (transpose S2048x2048 [1, 0] · transposes_S2048x2048_S2048x2048_1_0)) (hx := ⟨by decide, rfl⟩) (hy := ⟨by decide, rfl⟩)
  rw [hk, hr, ← c_main_v284__main_v1379 hag hel]

theorem c_main_v286__main_v1381 : StableHlo.after Cert.KernelIdeal.Hand.KOps (Cert.KernelIdeal.Hand.Wl (F := Ideal) m ρ c) (Proc.devRef .tc Cert.KernelIdeal.main_v286) = StableHlo.after (Cert.ReferenceIdeal.Hand.ops (F := Ideal)) (StableHlo.launchContents m' c) (Proc.devRef .tc Cert.ReferenceIdeal.main_v1381) := by
  have hk := StableHlo.Ascending.eq_binary Cert.KernelIdeal.Hand.KOps_asc (Cert.KernelIdeal.Hand.Wl m ρ c) (Cert.KernelIdeal.Hand.mem_KOps_st7 (Cert.KernelIdeal.Hand.mem_st_7_10 (List.getElem_mem (l := Cert.KernelIdeal.GenP.hostOps7_10 (F := Ideal)) (n := 15) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part27 (List.getElem_mem (l := Cert.ReferenceIdeal.Hand.ops_part27 (F := Ideal)) (n := 80) (by decide))) rfl rfl rfl (by decide) (by decide) (ha := ⟨by decide, rfl⟩) (hb := ⟨by decide, rfl⟩) (hy := ⟨by decide, rfl⟩)
  rw [hk, hr, ← c_main_v285__main_v1380 hag hel, ← c_main_v246__main_v1340 hag hel]
  rfl

theorem c_main_call6_cst__main_call62_cst : StableHlo.after Cert.KernelIdeal.Hand.KOps (Cert.KernelIdeal.Hand.Wl (F := Ideal) m ρ c) (Proc.devRef .tc Cert.KernelIdeal.main_call6_cst) = StableHlo.after (Cert.ReferenceIdeal.Hand.ops (F := Ideal)) (StableHlo.launchContents m' c) (Proc.devRef .tc Cert.ReferenceIdeal.main_call62_cst) := by
  have hk := StableHlo.Ascending.eq_nullary Cert.KernelIdeal.Hand.KOps_asc (Cert.KernelIdeal.Hand.Wl m ρ c) (Cert.KernelIdeal.Hand.mem_KOps_st7 (Cert.KernelIdeal.Hand.mem_st_7_11 (List.getElem_mem (l := Cert.KernelIdeal.GenP.hostOps7_11 (F := Ideal)) (n := 0) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part27 (List.getElem_mem (l := Cert.ReferenceIdeal.Hand.ops_part27 (F := Ideal)) (n := 81) (by decide))) rfl (hy := ⟨by decide, rfl⟩)
  rw [hk, hr]

theorem c_main_call6_v0__main_call62_v0 : StableHlo.after Cert.KernelIdeal.Hand.KOps (Cert.KernelIdeal.Hand.Wl (F := Ideal) m ρ c) (Proc.devRef .tc Cert.KernelIdeal.main_call6_v0) = StableHlo.after (Cert.ReferenceIdeal.Hand.ops (F := Ideal)) (StableHlo.launchContents m' c) (Proc.devRef .tc Cert.ReferenceIdeal.main_call62_v0) := by
  have hk := StableHlo.Ascending.eq_unary Cert.KernelIdeal.Hand.KOps_asc (Cert.KernelIdeal.Hand.Wl m ρ c) (Cert.KernelIdeal.Hand.mem_KOps_st7 (Cert.KernelIdeal.Hand.mem_st_7_11 (List.getElem_mem (l := Cert.KernelIdeal.GenP.hostOps7_11 (F := Ideal)) (n := 1) (by decide)))) rfl rfl (by decide) (x := Cert.KernelIdeal.main_call6_cst) (y := Cert.KernelIdeal.main_call6_v0) (f := open Cert.KernelIdeal Cert.KernelIdeal.Gen in (broadcastInDim S2048x8 ![] bcast_S_S2048x8)) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part27 (List.getElem_mem (l := Cert.ReferenceIdeal.Hand.ops_part27 (F := Ideal)) (n := 82) (by decide))) rfl rfl (by decide) (x := Cert.ReferenceIdeal.main_call62_cst) (y := Cert.ReferenceIdeal.main_call62_v0) (f := open Cert.ReferenceIdeal Cert.ReferenceIdeal.Gen in (broadcastInDim S2048x8 ![] bcast_S_S2048x8)) (hx := ⟨by decide, rfl⟩) (hy := ⟨by decide, rfl⟩)
  rw [hk, hr, ← c_main_call6_cst__main_call62_cst hag hel]

theorem c_main_call6_v1__main_call62_v1 : StableHlo.after Cert.KernelIdeal.Hand.KOps (Cert.KernelIdeal.Hand.Wl (F := Ideal) m ρ c) (Proc.devRef .tc Cert.KernelIdeal.main_call6_v1) = StableHlo.after (Cert.ReferenceIdeal.Hand.ops (F := Ideal)) (StableHlo.launchContents m' c) (Proc.devRef .tc Cert.ReferenceIdeal.main_call62_v1) := by
  have hk := StableHlo.Ascending.eq_binary Cert.KernelIdeal.Hand.KOps_asc (Cert.KernelIdeal.Hand.Wl m ρ c) (Cert.KernelIdeal.Hand.mem_KOps_st7 (Cert.KernelIdeal.Hand.mem_st_7_11 (List.getElem_mem (l := Cert.KernelIdeal.GenP.hostOps7_11 (F := Ideal)) (n := 2) (by decide)))) rfl rfl rfl (by decide) (by decide) (a := Cert.KernelIdeal.main_v286) (b := Cert.KernelIdeal.main_call6_v0) (y := Cert.KernelIdeal.main_call6_v1) (f := open Cert.KernelIdeal Cert.KernelIdeal.Gen in (cmpf (F := Ideal) .ogt)) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part27 (List.getElem_mem (l := Cert.ReferenceIdeal.Hand.ops_part27 (F := Ideal)) (n := 83) (by decide))) rfl rfl rfl (by decide) (by decide) (a := Cert.ReferenceIdeal.main_v1381) (b := Cert.ReferenceIdeal.main_call62_v0) (y := Cert.ReferenceIdeal.main_call62_v1) (f := open Cert.ReferenceIdeal Cert.ReferenceIdeal.Gen in (cmpf (F := Ideal) .ogt)) (ha := ⟨by decide, rfl⟩) (hb := ⟨by decide, rfl⟩) (hy := ⟨by decide, rfl⟩)
  rw [hk, hr, ← c_main_v286__main_v1381 hag hel, ← c_main_call6_v0__main_call62_v0 hag hel]

theorem c_main_call6_cst_0__main_call62_cst_0 : StableHlo.after Cert.KernelIdeal.Hand.KOps (Cert.KernelIdeal.Hand.Wl (F := Ideal) m ρ c) (Proc.devRef .tc Cert.KernelIdeal.main_call6_cst_0) = StableHlo.after (Cert.ReferenceIdeal.Hand.ops (F := Ideal)) (StableHlo.launchContents m' c) (Proc.devRef .tc Cert.ReferenceIdeal.main_call62_cst_0) := by
  have hk := StableHlo.Ascending.eq_nullary Cert.KernelIdeal.Hand.KOps_asc (Cert.KernelIdeal.Hand.Wl m ρ c) (Cert.KernelIdeal.Hand.mem_KOps_st7 (Cert.KernelIdeal.Hand.mem_st_7_11 (List.getElem_mem (l := Cert.KernelIdeal.GenP.hostOps7_11 (F := Ideal)) (n := 3) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part27 (List.getElem_mem (l := Cert.ReferenceIdeal.Hand.ops_part27 (F := Ideal)) (n := 84) (by decide))) rfl (hy := ⟨by decide, rfl⟩)
  rw [hk, hr]

theorem c_main_call6_v2__main_call62_v2 : StableHlo.after Cert.KernelIdeal.Hand.KOps (Cert.KernelIdeal.Hand.Wl (F := Ideal) m ρ c) (Proc.devRef .tc Cert.KernelIdeal.main_call6_v2) = StableHlo.after (Cert.ReferenceIdeal.Hand.ops (F := Ideal)) (StableHlo.launchContents m' c) (Proc.devRef .tc Cert.ReferenceIdeal.main_call62_v2) := by
  have hk := StableHlo.Ascending.eq_unary Cert.KernelIdeal.Hand.KOps_asc (Cert.KernelIdeal.Hand.Wl m ρ c) (Cert.KernelIdeal.Hand.mem_KOps_st7 (Cert.KernelIdeal.Hand.mem_st_7_11 (List.getElem_mem (l := Cert.KernelIdeal.GenP.hostOps7_11 (F := Ideal)) (n := 4) (by decide)))) rfl rfl (by decide) (x := Cert.KernelIdeal.main_call6_cst_0) (y := Cert.KernelIdeal.main_call6_v2) (f := open Cert.KernelIdeal Cert.KernelIdeal.Gen in (broadcastInDim S2048x8 ![] bcast_S_S2048x8)) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part27 (List.getElem_mem (l := Cert.ReferenceIdeal.Hand.ops_part27 (F := Ideal)) (n := 85) (by decide))) rfl rfl (by decide) (x := Cert.ReferenceIdeal.main_call62_cst_0) (y := Cert.ReferenceIdeal.main_call62_v2) (f := open Cert.ReferenceIdeal Cert.ReferenceIdeal.Gen in (broadcastInDim S2048x8 ![] bcast_S_S2048x8)) (hx := ⟨by decide, rfl⟩) (hy := ⟨by decide, rfl⟩)
  rw [hk, hr, ← c_main_call6_cst_0__main_call62_cst_0 hag hel]

theorem c_main_call6_v3__main_call62_v3 : StableHlo.after Cert.KernelIdeal.Hand.KOps (Cert.KernelIdeal.Hand.Wl (F := Ideal) m ρ c) (Proc.devRef .tc Cert.KernelIdeal.main_call6_v3) = StableHlo.after (Cert.ReferenceIdeal.Hand.ops (F := Ideal)) (StableHlo.launchContents m' c) (Proc.devRef .tc Cert.ReferenceIdeal.main_call62_v3) := by
  have hk := StableHlo.Ascending.eq_binary Cert.KernelIdeal.Hand.KOps_asc (Cert.KernelIdeal.Hand.Wl m ρ c) (Cert.KernelIdeal.Hand.mem_KOps_st7 (Cert.KernelIdeal.Hand.mem_st_7_11 (List.getElem_mem (l := Cert.KernelIdeal.GenP.hostOps7_11 (F := Ideal)) (n := 5) (by decide)))) rfl rfl rfl (by decide) (by decide) (a := Cert.KernelIdeal.main_v286) (b := Cert.KernelIdeal.main_call6_v2) (y := Cert.KernelIdeal.main_call6_v3) (f := open Cert.KernelIdeal Cert.KernelIdeal.Gen in (cmpf (F := Ideal) .ogt)) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part27 (List.getElem_mem (l := Cert.ReferenceIdeal.Hand.ops_part27 (F := Ideal)) (n := 86) (by decide))) rfl rfl rfl (by decide) (by decide) (a := Cert.ReferenceIdeal.main_v1381) (b := Cert.ReferenceIdeal.main_call62_v2) (y := Cert.ReferenceIdeal.main_call62_v3) (f := open Cert.ReferenceIdeal Cert.ReferenceIdeal.Gen in (cmpf (F := Ideal) .ogt)) (ha := ⟨by decide, rfl⟩) (hb := ⟨by decide, rfl⟩) (hy := ⟨by decide, rfl⟩)
  rw [hk, hr, ← c_main_v286__main_v1381 hag hel, ← c_main_call6_v2__main_call62_v2 hag hel]

theorem c_main_call6_cst_1__main_call62_cst_1 : StableHlo.after Cert.KernelIdeal.Hand.KOps (Cert.KernelIdeal.Hand.Wl (F := Ideal) m ρ c) (Proc.devRef .tc Cert.KernelIdeal.main_call6_cst_1) = StableHlo.after (Cert.ReferenceIdeal.Hand.ops (F := Ideal)) (StableHlo.launchContents m' c) (Proc.devRef .tc Cert.ReferenceIdeal.main_call62_cst_1) := by
  have hk := StableHlo.Ascending.eq_nullary Cert.KernelIdeal.Hand.KOps_asc (Cert.KernelIdeal.Hand.Wl m ρ c) (Cert.KernelIdeal.Hand.mem_KOps_st7 (Cert.KernelIdeal.Hand.mem_st_7_11 (List.getElem_mem (l := Cert.KernelIdeal.GenP.hostOps7_11 (F := Ideal)) (n := 6) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part27 (List.getElem_mem (l := Cert.ReferenceIdeal.Hand.ops_part27 (F := Ideal)) (n := 87) (by decide))) rfl (hy := ⟨by decide, rfl⟩)
  rw [hk, hr]

theorem c_main_call6_call0_v0__main_call62_call0_v0 : StableHlo.after Cert.KernelIdeal.Hand.KOps (Cert.KernelIdeal.Hand.Wl (F := Ideal) m ρ c) (Proc.devRef .tc Cert.KernelIdeal.main_call6_call0_v0) = StableHlo.after (Cert.ReferenceIdeal.Hand.ops (F := Ideal)) (StableHlo.launchContents m' c) (Proc.devRef .tc Cert.ReferenceIdeal.main_call62_call0_v0) := by
  have hk := StableHlo.Ascending.eq_unary Cert.KernelIdeal.Hand.KOps_asc (Cert.KernelIdeal.Hand.Wl m ρ c) (Cert.KernelIdeal.Hand.mem_KOps_st7 (Cert.KernelIdeal.Hand.mem_st_7_11 (List.getElem_mem (l := Cert.KernelIdeal.GenP.hostOps7_11 (F := Ideal)) (n := 7) (by decide)))) rfl rfl (by decide) (x := Cert.KernelIdeal.main_call6_cst_1) (y := Cert.KernelIdeal.main_call6_call0_v0) (f := open Cert.KernelIdeal Cert.KernelIdeal.Gen in id) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part27 (List.getElem_mem (l := Cert.ReferenceIdeal.Hand.ops_part27 (F := Ideal)) (n := 88) (by decide))) rfl rfl (by decide) (x := Cert.ReferenceIdeal.main_call62_cst_1) (y := Cert.ReferenceIdeal.main_call62_call0_v0) (f := open Cert.ReferenceIdeal Cert.ReferenceIdeal.Gen in id) (hx := ⟨by decide, rfl⟩) (hy := ⟨by decide, rfl⟩)
  rw [hk, hr, ← c_main_call6_cst_1__main_call62_cst_1 hag hel]

theorem c_main_call6_call0_v1__main_call62_call0_v1 : StableHlo.after Cert.KernelIdeal.Hand.KOps (Cert.KernelIdeal.Hand.Wl (F := Ideal) m ρ c) (Proc.devRef .tc Cert.KernelIdeal.main_call6_call0_v1) = StableHlo.after (Cert.ReferenceIdeal.Hand.ops (F := Ideal)) (StableHlo.launchContents m' c) (Proc.devRef .tc Cert.ReferenceIdeal.main_call62_call0_v1) := by
  have hk := StableHlo.Ascending.eq_unary Cert.KernelIdeal.Hand.KOps_asc (Cert.KernelIdeal.Hand.Wl m ρ c) (Cert.KernelIdeal.Hand.mem_KOps_st7 (Cert.KernelIdeal.Hand.mem_st_7_11 (List.getElem_mem (l := Cert.KernelIdeal.GenP.hostOps7_11 (F := Ideal)) (n := 8) (by decide)))) rfl rfl (by decide) (x := Cert.KernelIdeal.main_call6_call0_v0) (y := Cert.KernelIdeal.main_call6_call0_v1) (f := open Cert.KernelIdeal Cert.KernelIdeal.Gen in (broadcastInDim S2048x8 ![] bcast_S_S2048x8)) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part27 (List.getElem_mem (l := Cert.ReferenceIdeal.Hand.ops_part27 (F := Ideal)) (n := 89) (by decide))) rfl rfl (by decide) (x := Cert.ReferenceIdeal.main_call62_call0_v0) (y := Cert.ReferenceIdeal.main_call62_call0_v1) (f := open Cert.ReferenceIdeal Cert.ReferenceIdeal.Gen in (broadcastInDim S2048x8 ![] bcast_S_S2048x8)) (hx := ⟨by decide, rfl⟩) (hy := ⟨by decide, rfl⟩)
  rw [hk, hr, ← c_main_call6_call0_v0__main_call62_call0_v0 hag hel]

theorem c_main_call6_v4__main_call62_v4 : StableHlo.after Cert.KernelIdeal.Hand.KOps (Cert.KernelIdeal.Hand.Wl (F := Ideal) m ρ c) (Proc.devRef .tc Cert.KernelIdeal.main_call6_v4) = StableHlo.after (Cert.ReferenceIdeal.Hand.ops (F := Ideal)) (StableHlo.launchContents m' c) (Proc.devRef .tc Cert.ReferenceIdeal.main_call62_v4) := by
  have hk := StableHlo.Ascending.eq_ternary Cert.KernelIdeal.Hand.KOps_asc (Cert.KernelIdeal.Hand.Wl m ρ c) (Cert.KernelIdeal.Hand.mem_KOps_st7 (Cert.KernelIdeal.Hand.mem_st_7_11 (List.getElem_mem (l := Cert.KernelIdeal.GenP.hostOps7_11 (F := Ideal)) (n := 9) (by decide)))) rfl rfl rfl rfl (by decide) (by decide) (by decide) (c := Cert.KernelIdeal.main_call6_v3) (a := Cert.KernelIdeal.main_call6_call0_v1) (b := Cert.KernelIdeal.main_v286) (y := Cert.KernelIdeal.main_call6_v4) (f := (select : (⟨Cert.KernelIdeal.S2048x8, .i1⟩ : BufTy).Contents (Elt Ideal) → (⟨Cert.KernelIdeal.S2048x8, .f32⟩ : BufTy).Contents (Elt Ideal) → (⟨Cert.KernelIdeal.S2048x8, .f32⟩ : BufTy).Contents (Elt Ideal) → (⟨Cert.KernelIdeal.S2048x8, .f32⟩ : BufTy).Contents (Elt Ideal))) (hc := ⟨by decide, rfl⟩) (ha := ⟨by decide, rfl⟩) (hb := ⟨by decide, rfl⟩) (hy := ⟨by decide, rfl⟩)
  have hr := StableHlo.Ascending.eq_ternary (Cert.ReferenceIdeal.Hand.ops_asc (F := Ideal)) (StableHlo.launchContents m' c) (Cert.ReferenceIdeal.Hand.mem_ops_part27 (List.getElem_mem (l := Cert.ReferenceIdeal.Hand.ops_part27 (F := Ideal)) (n := 90) (by decide))) rfl rfl rfl rfl (by decide) (by decide) (by decide) (c := Cert.ReferenceIdeal.main_call62_v3) (a := Cert.ReferenceIdeal.main_call62_call0_v1) (b := Cert.ReferenceIdeal.main_v1381) (y := Cert.ReferenceIdeal.main_call62_v4) (f := (select : (⟨Cert.ReferenceIdeal.S2048x8, .i1⟩ : BufTy).Contents (Elt Ideal) → (⟨Cert.ReferenceIdeal.S2048x8, .f32⟩ : BufTy).Contents (Elt Ideal) → (⟨Cert.ReferenceIdeal.S2048x8, .f32⟩ : BufTy).Contents (Elt Ideal) → (⟨Cert.ReferenceIdeal.S2048x8, .f32⟩ : BufTy).Contents (Elt Ideal))) (hc := ⟨by decide, rfl⟩) (ha := ⟨by decide, rfl⟩) (hb := ⟨by decide, rfl⟩) (hy := ⟨by decide, rfl⟩)
  rw [hk, hr, ← c_main_call6_v3__main_call62_v3 hag hel, ← c_main_call6_call0_v1__main_call62_call0_v1 hag hel, ← c_main_v286__main_v1381 hag hel]

theorem c_main_call6_v5__main_call62_v5 : StableHlo.after Cert.KernelIdeal.Hand.KOps (Cert.KernelIdeal.Hand.Wl (F := Ideal) m ρ c) (Proc.devRef .tc Cert.KernelIdeal.main_call6_v5) = StableHlo.after (Cert.ReferenceIdeal.Hand.ops (F := Ideal)) (StableHlo.launchContents m' c) (Proc.devRef .tc Cert.ReferenceIdeal.main_call62_v5) := by
  have hk := StableHlo.Ascending.eq_unary Cert.KernelIdeal.Hand.KOps_asc (Cert.KernelIdeal.Hand.Wl m ρ c) (Cert.KernelIdeal.Hand.mem_KOps_st7 (Cert.KernelIdeal.Hand.mem_st_7_11 (List.getElem_mem (l := Cert.KernelIdeal.GenP.hostOps7_11 (F := Ideal)) (n := 10) (by decide)))) rfl rfl (by decide) (x := Cert.KernelIdeal.main_call6_v4) (y := Cert.KernelIdeal.main_call6_v5) (f := open Cert.KernelIdeal Cert.KernelIdeal.Gen in Host.expm1 (F := Ideal)) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part27 (List.getElem_mem (l := Cert.ReferenceIdeal.Hand.ops_part27 (F := Ideal)) (n := 91) (by decide))) rfl rfl (by decide) (x := Cert.ReferenceIdeal.main_call62_v4) (y := Cert.ReferenceIdeal.main_call62_v5) (f := open Cert.ReferenceIdeal Cert.ReferenceIdeal.Gen in Host.expm1 (F := Ideal)) (hx := ⟨by decide, rfl⟩) (hy := ⟨by decide, rfl⟩)
  rw [hk, hr, ← c_main_call6_v4__main_call62_v4 hag hel]

theorem c_main_call6_cst_2__main_call62_cst_2 : StableHlo.after Cert.KernelIdeal.Hand.KOps (Cert.KernelIdeal.Hand.Wl (F := Ideal) m ρ c) (Proc.devRef .tc Cert.KernelIdeal.main_call6_cst_2) = StableHlo.after (Cert.ReferenceIdeal.Hand.ops (F := Ideal)) (StableHlo.launchContents m' c) (Proc.devRef .tc Cert.ReferenceIdeal.main_call62_cst_2) := by
  have hk := StableHlo.Ascending.eq_nullary Cert.KernelIdeal.Hand.KOps_asc (Cert.KernelIdeal.Hand.Wl m ρ c) (Cert.KernelIdeal.Hand.mem_KOps_st7 (Cert.KernelIdeal.Hand.mem_st_7_11 (List.getElem_mem (l := Cert.KernelIdeal.GenP.hostOps7_11 (F := Ideal)) (n := 11) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part27 (List.getElem_mem (l := Cert.ReferenceIdeal.Hand.ops_part27 (F := Ideal)) (n := 92) (by decide))) rfl (hy := ⟨by decide, rfl⟩)
  rw [hk, hr]

theorem c_main_call6_v6__main_call62_v6 : StableHlo.after Cert.KernelIdeal.Hand.KOps (Cert.KernelIdeal.Hand.Wl (F := Ideal) m ρ c) (Proc.devRef .tc Cert.KernelIdeal.main_call6_v6) = StableHlo.after (Cert.ReferenceIdeal.Hand.ops (F := Ideal)) (StableHlo.launchContents m' c) (Proc.devRef .tc Cert.ReferenceIdeal.main_call62_v6) := by
  have hk := StableHlo.Ascending.eq_unary Cert.KernelIdeal.Hand.KOps_asc (Cert.KernelIdeal.Hand.Wl m ρ c) (Cert.KernelIdeal.Hand.mem_KOps_st7 (Cert.KernelIdeal.Hand.mem_st_7_11 (List.getElem_mem (l := Cert.KernelIdeal.GenP.hostOps7_11 (F := Ideal)) (n := 12) (by decide)))) rfl rfl (by decide) (x := Cert.KernelIdeal.main_call6_cst_2) (y := Cert.KernelIdeal.main_call6_v6) (f := open Cert.KernelIdeal Cert.KernelIdeal.Gen in (broadcastInDim S2048x8 ![] bcast_S_S2048x8)) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part27 (List.getElem_mem (l := Cert.ReferenceIdeal.Hand.ops_part27 (F := Ideal)) (n := 93) (by decide))) rfl rfl (by decide) (x := Cert.ReferenceIdeal.main_call62_cst_2) (y := Cert.ReferenceIdeal.main_call62_v6) (f := open Cert.ReferenceIdeal Cert.ReferenceIdeal.Gen in (broadcastInDim S2048x8 ![] bcast_S_S2048x8)) (hx := ⟨by decide, rfl⟩) (hy := ⟨by decide, rfl⟩)
  rw [hk, hr, ← c_main_call6_cst_2__main_call62_cst_2 hag hel]

theorem c_main_call6_v7__main_call62_v7 : StableHlo.after Cert.KernelIdeal.Hand.KOps (Cert.KernelIdeal.Hand.Wl (F := Ideal) m ρ c) (Proc.devRef .tc Cert.KernelIdeal.main_call6_v7) = StableHlo.after (Cert.ReferenceIdeal.Hand.ops (F := Ideal)) (StableHlo.launchContents m' c) (Proc.devRef .tc Cert.ReferenceIdeal.main_call62_v7) := by
  have hk := StableHlo.Ascending.eq_binary Cert.KernelIdeal.Hand.KOps_asc (Cert.KernelIdeal.Hand.Wl m ρ c) (Cert.KernelIdeal.Hand.mem_KOps_st7 (Cert.KernelIdeal.Hand.mem_st_7_11 (List.getElem_mem (l := Cert.KernelIdeal.GenP.hostOps7_11 (F := Ideal)) (n := 13) (by decide)))) rfl rfl rfl (by decide) (by decide) (a := Cert.KernelIdeal.main_call6_v6) (b := Cert.KernelIdeal.main_call6_v5) (y := Cert.KernelIdeal.main_call6_v7) (f := open Cert.KernelIdeal Cert.KernelIdeal.Gen in mulf (F := Ideal)) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part27 (List.getElem_mem (l := Cert.ReferenceIdeal.Hand.ops_part27 (F := Ideal)) (n := 94) (by decide))) rfl rfl rfl (by decide) (by decide) (a := Cert.ReferenceIdeal.main_call62_v6) (b := Cert.ReferenceIdeal.main_call62_v5) (y := Cert.ReferenceIdeal.main_call62_v7) (f := open Cert.ReferenceIdeal Cert.ReferenceIdeal.Gen in mulf (F := Ideal)) (ha := ⟨by decide, rfl⟩) (hb := ⟨by decide, rfl⟩) (hy := ⟨by decide, rfl⟩)
  rw [hk, hr, ← c_main_call6_v6__main_call62_v6 hag hel, ← c_main_call6_v5__main_call62_v5 hag hel]

theorem c_main_v287__main_v1382 : StableHlo.after Cert.KernelIdeal.Hand.KOps (Cert.KernelIdeal.Hand.Wl (F := Ideal) m ρ c) (Proc.devRef .tc Cert.KernelIdeal.main_v287) = StableHlo.after (Cert.ReferenceIdeal.Hand.ops (F := Ideal)) (StableHlo.launchContents m' c) (Proc.devRef .tc Cert.ReferenceIdeal.main_v1382) := by
  have hk := StableHlo.Ascending.eq_ternary Cert.KernelIdeal.Hand.KOps_asc (Cert.KernelIdeal.Hand.Wl m ρ c) (Cert.KernelIdeal.Hand.mem_KOps_st7 (Cert.KernelIdeal.Hand.mem_st_7_11 (List.getElem_mem (l := Cert.KernelIdeal.GenP.hostOps7_11 (F := Ideal)) (n := 14) (by decide)))) rfl rfl rfl rfl (by decide) (by decide) (by decide) (c := Cert.KernelIdeal.main_call6_v1) (a := Cert.KernelIdeal.main_v286) (b := Cert.KernelIdeal.main_call6_v7) (y := Cert.KernelIdeal.main_v287) (f := (select : (⟨Cert.KernelIdeal.S2048x8, .i1⟩ : BufTy).Contents (Elt Ideal) → (⟨Cert.KernelIdeal.S2048x8, .f32⟩ : BufTy).Contents (Elt Ideal) → (⟨Cert.KernelIdeal.S2048x8, .f32⟩ : BufTy).Contents (Elt Ideal) → (⟨Cert.KernelIdeal.S2048x8, .f32⟩ : BufTy).Contents (Elt Ideal))) (hc := ⟨by decide, rfl⟩) (ha := ⟨by decide, rfl⟩) (hb := ⟨by decide, rfl⟩) (hy := ⟨by decide, rfl⟩)
  have hr := StableHlo.Ascending.eq_ternary (Cert.ReferenceIdeal.Hand.ops_asc (F := Ideal)) (StableHlo.launchContents m' c) (Cert.ReferenceIdeal.Hand.mem_ops_part27 (List.getElem_mem (l := Cert.ReferenceIdeal.Hand.ops_part27 (F := Ideal)) (n := 95) (by decide))) rfl rfl rfl rfl (by decide) (by decide) (by decide) (c := Cert.ReferenceIdeal.main_call62_v1) (a := Cert.ReferenceIdeal.main_v1381) (b := Cert.ReferenceIdeal.main_call62_v7) (y := Cert.ReferenceIdeal.main_v1382) (f := (select : (⟨Cert.ReferenceIdeal.S2048x8, .i1⟩ : BufTy).Contents (Elt Ideal) → (⟨Cert.ReferenceIdeal.S2048x8, .f32⟩ : BufTy).Contents (Elt Ideal) → (⟨Cert.ReferenceIdeal.S2048x8, .f32⟩ : BufTy).Contents (Elt Ideal) → (⟨Cert.ReferenceIdeal.S2048x8, .f32⟩ : BufTy).Contents (Elt Ideal))) (hc := ⟨by decide, rfl⟩) (ha := ⟨by decide, rfl⟩) (hb := ⟨by decide, rfl⟩) (hy := ⟨by decide, rfl⟩)
  rw [hk, hr, ← c_main_call6_v1__main_call62_v1 hag hel, ← c_main_v286__main_v1381 hag hel, ← c_main_call6_v7__main_call62_v7 hag hel]

theorem c_main_v288__main_v1383 : StableHlo.after Cert.KernelIdeal.Hand.KOps (Cert.KernelIdeal.Hand.Wl (F := Ideal) m ρ c) (Proc.devRef .tc Cert.KernelIdeal.main_v288) = StableHlo.after (Cert.ReferenceIdeal.Hand.ops (F := Ideal)) (StableHlo.launchContents m' c) (Proc.devRef .tc Cert.ReferenceIdeal.main_v1383) := by
  have hk := StableHlo.Ascending.eq_unary Cert.KernelIdeal.Hand.KOps_asc (Cert.KernelIdeal.Hand.Wl m ρ c) (Cert.KernelIdeal.Hand.mem_KOps_st7 (Cert.KernelIdeal.Hand.mem_st_7_12 (List.getElem_mem (l := Cert.KernelIdeal.GenP.hostOps7_12 (F := Ideal)) (n := 0) (by decide)))) rfl rfl (by decide) (x := Cert.KernelIdeal.main_v165) (y := Cert.KernelIdeal.main_v288) (f := open Cert.KernelIdeal Cert.KernelIdeal.Gen in (extractStridedSlice S16x1 ![0, 1] · slices_S16x8_S16x1_0_1)) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part28 (List.getElem_mem (l := Cert.ReferenceIdeal.Hand.ops_part28 (F := Ideal)) (n := 0) (by decide))) rfl rfl (by decide) (x := Cert.ReferenceIdeal.main_v1258) (y := Cert.ReferenceIdeal.main_v1383) (f := open Cert.ReferenceIdeal Cert.ReferenceIdeal.Gen in (extractStridedSlice S16x1 ![0, 1] · slices_S16x8_S16x1_0_1)) (hx := ⟨by decide, rfl⟩) (hy := ⟨by decide, rfl⟩)
  rw [hk, hr, ← c_main_v165__main_v1258 hag hel]

theorem c_main_v289__main_v1384 : StableHlo.after Cert.KernelIdeal.Hand.KOps (Cert.KernelIdeal.Hand.Wl (F := Ideal) m ρ c) (Proc.devRef .tc Cert.KernelIdeal.main_v289) = StableHlo.after (Cert.ReferenceIdeal.Hand.ops (F := Ideal)) (StableHlo.launchContents m' c) (Proc.devRef .tc Cert.ReferenceIdeal.main_v1384) := by
  have hk := StableHlo.Ascending.eq_unary Cert.KernelIdeal.Hand.KOps_asc (Cert.KernelIdeal.Hand.Wl m ρ c) (Cert.KernelIdeal.Hand.mem_KOps_st7 (Cert.KernelIdeal.Hand.mem_st_7_12 (List.getElem_mem (l := Cert.KernelIdeal.GenP.hostOps7_12 (F := Ideal)) (n := 1) (by decide)))) rfl rfl (by decide) (x := Cert.KernelIdeal.main_v165) (y := Cert.KernelIdeal.main_v289) (f := open Cert.KernelIdeal Cert.KernelIdeal.Gen in (extractStridedSlice S16x1 ![0, 5] · slices_S16x8_S16x1_0_5)) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part28 (List.getElem_mem (l := Cert.ReferenceIdeal.Hand.ops_part28 (F := Ideal)) (n := 1) (by decide))) rfl rfl (by decide) (x := Cert.ReferenceIdeal.main_v1258) (y := Cert.ReferenceIdeal.main_v1384) (f := open Cert.ReferenceIdeal Cert.ReferenceIdeal.Gen in (extractStridedSlice S16x1 ![0, 5] · slices_S16x8_S16x1_0_5)) (hx := ⟨by decide, rfl⟩) (hy := ⟨by decide, rfl⟩)
  rw [hk, hr, ← c_main_v165__main_v1258 hag hel]

theorem c_main_v290__main_v1385 : StableHlo.after Cert.KernelIdeal.Hand.KOps (Cert.KernelIdeal.Hand.Wl (F := Ideal) m ρ c) (Proc.devRef .tc Cert.KernelIdeal.main_v290) = StableHlo.after (Cert.ReferenceIdeal.Hand.ops (F := Ideal)) (StableHlo.launchContents m' c) (Proc.devRef .tc Cert.ReferenceIdeal.main_v1385) := by
  have hk := StableHlo.Ascending.eq_unary Cert.KernelIdeal.Hand.KOps_asc (Cert.KernelIdeal.Hand.Wl m ρ c) (Cert.KernelIdeal.Hand.mem_KOps_st7 (Cert.KernelIdeal.Hand.mem_st_7_12 (List.getElem_mem (l := Cert.KernelIdeal.GenP.hostOps7_12 (F := Ideal)) (n := 2) (by decide)))) rfl rfl (by decide) (x := Cert.KernelIdeal.main_arg4) (y := Cert.KernelIdeal.main_v290) (f := open Cert.KernelIdeal Cert.KernelIdeal.Gen in (extractStridedSlice S1x256x8 ![1, 0, 0] · slices_S4x256x8_S1x256x8_1_0_0)) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part28 (List.getElem_mem (l := Cert.ReferenceIdeal.Hand.ops_part28 (F := Ideal)) (n := 2) (by decide))) rfl rfl (by decide) (x := Cert.ReferenceIdeal.main_arg4) (y := Cert.ReferenceIdeal.main_v1385) (f := open Cert.ReferenceIdeal Cert.ReferenceIdeal.Gen in (extractStridedSlice S1x256x8 ![1, 0, 0] · slices_S4x256x8_S1x256x8_1_0_0)) (hx := ⟨by decide, rfl⟩) (hy := ⟨by decide, rfl⟩)
  rw [hk, hr, ← c_main_arg4__main_arg4 hag hel]

theorem c_main_v291__main_v1386 : StableHlo.after Cert.KernelIdeal.Hand.KOps (Cert.KernelIdeal.Hand.Wl (F := Ideal) m ρ c) (Proc.devRef .tc Cert.KernelIdeal.main_v291) = StableHlo.after (Cert.ReferenceIdeal.Hand.ops (F := Ideal)) (StableHlo.launchContents m' c) (Proc.devRef .tc Cert.ReferenceIdeal.main_v1386) := by
  have hk := StableHlo.Ascending.eq_reshape Cert.KernelIdeal.Hand.KOps_asc (Cert.KernelIdeal.Hand.Wl m ρ c) (Cert.KernelIdeal.Hand.mem_KOps_st7 (Cert.KernelIdeal.Hand.mem_st_7_12 (List.getElem_mem (l := Cert.KernelIdeal.GenP.hostOps7_12 (F := Ideal)) (n := 3) (by decide)))) rfl rfl (by decide) (x := Cert.KernelIdeal.main_v290) (y := Cert.KernelIdeal.main_v291) (he := rfl) (hn := Cert.KernelIdeal.Gen.shapeCasts_S1x256x8_S256x8) (hx := ⟨by decide, rfl⟩) (hy := ⟨by decide, rfl⟩)
  have hr := StableHlo.Ascending.eq_reshape (Cert.ReferenceIdeal.Hand.ops_asc (F := Ideal)) (StableHlo.launchContents m' c) (Cert.ReferenceIdeal.Hand.mem_ops_part28 (List.getElem_mem (l := Cert.ReferenceIdeal.Hand.ops_part28 (F := Ideal)) (n := 3) (by decide))) rfl rfl (by decide) (x := Cert.ReferenceIdeal.main_v1385) (y := Cert.ReferenceIdeal.main_v1386) (he := rfl) (hn := Cert.ReferenceIdeal.Gen.shapeCasts_S1x256x8_S256x8) (hx := ⟨by decide, rfl⟩) (hy := ⟨by decide, rfl⟩)
  rw [hk, hr, ← c_main_v290__main_v1385 hag hel]
  rfl

theorem c_main_v292__main_v1423 : StableHlo.after Cert.KernelIdeal.Hand.KOps (Cert.KernelIdeal.Hand.Wl (F := Ideal) m ρ c) (Proc.devRef .tc Cert.KernelIdeal.main_v292) = StableHlo.after (Cert.ReferenceIdeal.Hand.ops (F := Ideal)) (StableHlo.launchContents m' c) (Proc.devRef .tc Cert.ReferenceIdeal.main_v1423) := by
  have hk := StableHlo.Ascending.eq_binary Cert.KernelIdeal.Hand.KOps_asc (Cert.KernelIdeal.Hand.Wl m ρ c) (Cert.KernelIdeal.Hand.mem_KOps_st7 (Cert.KernelIdeal.Hand.mem_st_7_12 (List.getElem_mem (l := Cert.KernelIdeal.GenP.hostOps7_12 (F := Ideal)) (n := 4) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part28 (List.getElem_mem (l := Cert.ReferenceIdeal.Hand.ops_part28 (F := Ideal)) (n := 50) (by decide))) rfl rfl rfl (by decide) (by decide) (ha := ⟨by decide, rfl⟩) (hb := ⟨by decide, rfl⟩) (hy := ⟨by decide, rfl⟩)
  rw [hk, hr, ← c_main_v45__main_v144 hag hel, ← c_main_v291__main_v1386 hag hel]
  rfl

theorem c_main_v293__main_v1424 : StableHlo.after Cert.KernelIdeal.Hand.KOps (Cert.KernelIdeal.Hand.Wl (F := Ideal) m ρ c) (Proc.devRef .tc Cert.KernelIdeal.main_v293) = StableHlo.after (Cert.ReferenceIdeal.Hand.ops (F := Ideal)) (StableHlo.launchContents m' c) (Proc.devRef .tc Cert.ReferenceIdeal.main_v1424) := by
  have hk := StableHlo.Ascending.eq_binary Cert.KernelIdeal.Hand.KOps_asc (Cert.KernelIdeal.Hand.Wl m ρ c) (Cert.KernelIdeal.Hand.mem_KOps_st7 (Cert.KernelIdeal.Hand.mem_st_7_12 (List.getElem_mem (l := Cert.KernelIdeal.GenP.hostOps7_12 (F := Ideal)) (n := 5) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part28 (List.getElem_mem (l := Cert.ReferenceIdeal.Hand.ops_part28 (F := Ideal)) (n := 51) (by decide))) rfl rfl rfl (by decide) (by decide) (ha := ⟨by decide, rfl⟩) (hb := ⟨by decide, rfl⟩) (hy := ⟨by decide, rfl⟩)
  rw [hk, hr, ← c_main_v45__main_v144 hag hel, ← c_main_v291__main_v1386 hag hel]
  rfl

theorem c_main_v294__main_v1425 : StableHlo.after Cert.KernelIdeal.Hand.KOps (Cert.KernelIdeal.Hand.Wl (F := Ideal) m ρ c) (Proc.devRef .tc Cert.KernelIdeal.main_v294) = StableHlo.after (Cert.ReferenceIdeal.Hand.ops (F := Ideal)) (StableHlo.launchContents m' c) (Proc.devRef .tc Cert.ReferenceIdeal.main_v1425) := by
  have hk := StableHlo.Ascending.eq_binary Cert.KernelIdeal.Hand.KOps_asc (Cert.KernelIdeal.Hand.Wl m ρ c) (Cert.KernelIdeal.Hand.mem_KOps_st7 (Cert.KernelIdeal.Hand.mem_st_7_12 (List.getElem_mem (l := Cert.KernelIdeal.GenP.hostOps7_12 (F := Ideal)) (n := 6) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part28 (List.getElem_mem (l := Cert.ReferenceIdeal.Hand.ops_part28 (F := Ideal)) (n := 52) (by decide))) rfl rfl rfl (by decide) (by decide) (ha := ⟨by decide, rfl⟩) (hb := ⟨by decide, rfl⟩) (hy := ⟨by decide, rfl⟩)
  rw [hk, hr, ← c_main_v38__main_v137 hag hel, ← c_main_v291__main_v1386 hag hel]
  rfl

theorem c_main_v295__main_v1426 : StableHlo.after Cert.KernelIdeal.Hand.KOps (Cert.KernelIdeal.Hand.Wl (F := Ideal) m ρ c) (Proc.devRef .tc Cert.KernelIdeal.main_v295) = StableHlo.after (Cert.ReferenceIdeal.Hand.ops (F := Ideal)) (StableHlo.launchContents m' c) (Proc.devRef .tc Cert.ReferenceIdeal.main_v1426) := by
  have hk := StableHlo.Ascending.eq_unary Cert.KernelIdeal.Hand.KOps_asc (Cert.KernelIdeal.Hand.Wl m ρ c) (Cert.KernelIdeal.Hand.mem_KOps_st7 (Cert.KernelIdeal.Hand.mem_st_7_12 (List.getElem_mem (l := Cert.KernelIdeal.GenP.hostOps7_12 (F := Ideal)) (n := 7) (by decide)))) rfl rfl (by decide) (x := Cert.KernelIdeal.main_v288) (y := Cert.KernelIdeal.main_v295) (f := open Cert.KernelIdeal Cert.KernelIdeal.Gen in (extractStridedSlice S8x1 ![0, 0] · slices_S16x1_S8x1_0_0)) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part28 (List.getElem_mem (l := Cert.ReferenceIdeal.Hand.ops_part28 (F := Ideal)) (n := 53) (by decide))) rfl rfl (by decide) (x := Cert.ReferenceIdeal.main_v1383) (y := Cert.ReferenceIdeal.main_v1426) (f := open Cert.ReferenceIdeal Cert.ReferenceIdeal.Gen in (extractStridedSlice S8x1 ![0, 0] · slices_S16x1_S8x1_0_0)) (hx := ⟨by decide, rfl⟩) (hy := ⟨by decide, rfl⟩)
  rw [hk, hr, ← c_main_v288__main_v1383 hag hel]

end Cert.Value

end
-- ==== Proof.Val.C009.lean ====
/- Steps C009 of the value claim's chain: for each listed pair, the kernel program's buffer and its reference twin hold equal contents at the two programs' final
   valuations — the two operations are the same function (read off the two operation lists) of operands already paired. A table; written by: bun scratch/corr.js 60 -/
import proofs.«146970_j35948876268088_1_alg».proof.Proof.Val.Seed
import proofs.«146970_j35948876268088_1_alg».proof.Proof.KI.Dots
import Mathlib.Tactic.FinCases
import proofs.«146970_j35948876268088_1_alg».proof.Proof.Val.C000
import proofs.«146970_j35948876268088_1_alg».proof.Proof.Val.C005
import proofs.«146970_j35948876268088_1_alg».proof.Proof.Val.C008

set_option maxRecDepth 16384

noncomputable section

namespace Cert.Value

open Idealize.ShloMosaic Idealize.ShloMosaic.TcCoe Idealize.SL.Sem

variable {m : (ℓ : Loc Cert.KernelIdeal.nD Cert.KernelIdeal.τ Cert.KernelIdeal.sig) → Buf (Elt Ideal) ℓ} {ρ : Dev Cert.KernelIdeal.nD → PrngReg}
  {m' : (ℓ : Loc Cert.ReferenceIdeal.nD Cert.ReferenceIdeal.τ Cert.ReferenceIdeal.sig) → Buf (Elt Ideal) ℓ} {c : Dev Cert.KernelIdeal.nD} (hag : Agree m m') (hel : Els m' c)
include hag hel

theorem c_main_v296__main_v1427 : StableHlo.after Cert.KernelIdeal.Hand.KOps (Cert.KernelIdeal.Hand.Wl (F := Ideal) m ρ c) (Proc.devRef .tc Cert.KernelIdeal.main_v296) = StableHlo.after (Cert.ReferenceIdeal.Hand.ops (F := Ideal)) (StableHlo.launchContents m' c) (Proc.devRef .tc Cert.ReferenceIdeal.main_v1427) := by
  have hk := StableHlo.Ascending.eq_binary Cert.KernelIdeal.Hand.KOps_asc (Cert.KernelIdeal.Hand.Wl m ρ c) (Cert.KernelIdeal.Hand.mem_KOps_st7 (Cert.KernelIdeal.Hand.mem_st_7_12 (List.getElem_mem (l := Cert.KernelIdeal.GenP.hostOps7_12 (F := Ideal)) (n := 8) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part28 (List.getElem_mem (l := Cert.ReferenceIdeal.Hand.ops_part28 (F := Ideal)) (n := 54) (by decide))) rfl rfl rfl (by decide) (by decide) (ha := ⟨by decide, rfl⟩) (hb := ⟨by decide, rfl⟩) (hy := ⟨by decide, rfl⟩)
  rw [hk, hr, ← c_main_v293__main_v1424 hag hel, ← c_main_v295__main_v1426 hag hel]
  rfl

theorem c_main_v297__main_v1428 : StableHlo.after Cert.KernelIdeal.Hand.KOps (Cert.KernelIdeal.Hand.Wl (F := Ideal) m ρ c) (Proc.devRef .tc Cert.KernelIdeal.main_v297) = StableHlo.after (Cert.ReferenceIdeal.Hand.ops (F := Ideal)) (StableHlo.launchContents m' c) (Proc.devRef .tc Cert.ReferenceIdeal.main_v1428) := by
  have hk := StableHlo.Ascending.eq_unary Cert.KernelIdeal.Hand.KOps_asc (Cert.KernelIdeal.Hand.Wl m ρ c) (Cert.KernelIdeal.Hand.mem_KOps_st7 (Cert.KernelIdeal.Hand.mem_st_7_12 (List.getElem_mem (l := Cert.KernelIdeal.GenP.hostOps7_12 (F := Ideal)) (n := 9) (by decide)))) rfl rfl (by decide) (x := Cert.KernelIdeal.main_v288) (y := Cert.KernelIdeal.main_v297) (f := open Cert.KernelIdeal Cert.KernelIdeal.Gen in (extractStridedSlice S8x1 ![8, 0] · slices_S16x1_S8x1_8_0)) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part28 (List.getElem_mem (l := Cert.ReferenceIdeal.Hand.ops_part28 (F := Ideal)) (n := 55) (by decide))) rfl rfl (by decide) (x := Cert.ReferenceIdeal.main_v1383) (y := Cert.ReferenceIdeal.main_v1428) (f := open Cert.ReferenceIdeal Cert.ReferenceIdeal.Gen in (extractStridedSlice S8x1 ![8, 0] · slices_S16x1_S8x1_8_0)) (hx := ⟨by decide, rfl⟩) (hy := ⟨by decide, rfl⟩)
  rw [hk, hr, ← c_main_v288__main_v1383 hag hel]

theorem c_main_v298__main_v1429 : StableHlo.after Cert.KernelIdeal.Hand.KOps (Cert.KernelIdeal.Hand.Wl (F := Ideal) m ρ c) (Proc.devRef .tc Cert.KernelIdeal.main_v298) = StableHlo.after (Cert.ReferenceIdeal.Hand.ops (F := Ideal)) (StableHlo.launchContents m' c) (Proc.devRef .tc Cert.ReferenceIdeal.main_v1429) := by
  have hk := StableHlo.Ascending.eq_binary Cert.KernelIdeal.Hand.KOps_asc (Cert.KernelIdeal.Hand.Wl m ρ c) (Cert.KernelIdeal.Hand.mem_KOps_st7 (Cert.KernelIdeal.Hand.mem_st_7_12 (List.getElem_mem (l := Cert.KernelIdeal.GenP.hostOps7_12 (F := Ideal)) (n := 10) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part28 (List.getElem_mem (l := Cert.ReferenceIdeal.Hand.ops_part28 (F := Ideal)) (n := 56) (by decide))) rfl rfl rfl (by decide) (by decide) (ha := ⟨by decide, rfl⟩) (hb := ⟨by decide, rfl⟩) (hy := ⟨by decide, rfl⟩)
  rw [hk, hr, ← c_main_v294__main_v1425 hag hel, ← c_main_v297__main_v1428 hag hel]
  rfl

theorem c_main_v299__main_v1430 : StableHlo.after Cert.KernelIdeal.Hand.KOps (Cert.KernelIdeal.Hand.Wl (F := Ideal) m ρ c) (Proc.devRef .tc Cert.KernelIdeal.main_v299) = StableHlo.after (Cert.ReferenceIdeal.Hand.ops (F := Ideal)) (StableHlo.launchContents m' c) (Proc.devRef .tc Cert.ReferenceIdeal.main_v1430) := by
  have hk := StableHlo.Ascending.eq_unary Cert.KernelIdeal.Hand.KOps_asc (Cert.KernelIdeal.Hand.Wl m ρ c) (Cert.KernelIdeal.Hand.mem_KOps_st7 (Cert.KernelIdeal.Hand.mem_st_7_12 (List.getElem_mem (l := Cert.KernelIdeal.GenP.hostOps7_12 (F := Ideal)) (n := 11) (by decide)))) rfl rfl (by decide) (x := Cert.KernelIdeal.main_v298) (y := Cert.KernelIdeal.main_v299) (f := open Cert.KernelIdeal Cert.KernelIdeal.Gen in (transpose S1x2048 [1, 0] · transposes_S2048x1_S1x2048_1_0)) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part28 (List.getElem_mem (l := Cert.ReferenceIdeal.Hand.ops_part28 (F := Ideal)) (n := 57) (by decide))) rfl rfl (by decide) (x := Cert.ReferenceIdeal.main_v1429) (y := Cert.ReferenceIdeal.main_v1430) (f := open Cert.ReferenceIdeal Cert.ReferenceIdeal.Gen in (transpose S1x2048 [1, 0] · transposes_S2048x1_S1x2048_1_0)) (hx := ⟨by decide, rfl⟩) (hy := ⟨by decide, rfl⟩)
  rw [hk, hr, ← c_main_v298__main_v1429 hag hel]

theorem c_main_v300__main_v1431 : StableHlo.after Cert.KernelIdeal.Hand.KOps (Cert.KernelIdeal.Hand.Wl (F := Ideal) m ρ c) (Proc.devRef .tc Cert.KernelIdeal.main_v300) = StableHlo.after (Cert.ReferenceIdeal.Hand.ops (F := Ideal)) (StableHlo.launchContents m' c) (Proc.devRef .tc Cert.ReferenceIdeal.main_v1431) := by
  have hk := StableHlo.Ascending.eq_unary Cert.KernelIdeal.Hand.KOps_asc (Cert.KernelIdeal.Hand.Wl m ρ c) (Cert.KernelIdeal.Hand.mem_KOps_st7 (Cert.KernelIdeal.Hand.mem_st_7_12 (List.getElem_mem (l := Cert.KernelIdeal.GenP.hostOps7_12 (F := Ideal)) (n := 12) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part28 (List.getElem_mem (l := Cert.ReferenceIdeal.Hand.ops_part28 (F := Ideal)) (n := 58) (by decide))) rfl rfl (by decide) (hx := ⟨by decide, rfl⟩) (hy := ⟨by decide, rfl⟩)
  rw [hk, hr, ← c_main_v296__main_v1427 hag hel]

theorem c_main_v301__main_v1432 : StableHlo.after Cert.KernelIdeal.Hand.KOps (Cert.KernelIdeal.Hand.Wl (F := Ideal) m ρ c) (Proc.devRef .tc Cert.KernelIdeal.main_v301) = StableHlo.after (Cert.ReferenceIdeal.Hand.ops (F := Ideal)) (StableHlo.launchContents m' c) (Proc.devRef .tc Cert.ReferenceIdeal.main_v1432) := by
  have hk := StableHlo.Ascending.eq_unary Cert.KernelIdeal.Hand.KOps_asc (Cert.KernelIdeal.Hand.Wl m ρ c) (Cert.KernelIdeal.Hand.mem_KOps_st7 (Cert.KernelIdeal.Hand.mem_st_7_12 (List.getElem_mem (l := Cert.KernelIdeal.GenP.hostOps7_12 (F := Ideal)) (n := 13) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part28 (List.getElem_mem (l := Cert.ReferenceIdeal.Hand.ops_part28 (F := Ideal)) (n := 59) (by decide))) rfl rfl (by decide) (hx := ⟨by decide, rfl⟩) (hy := ⟨by decide, rfl⟩)
  rw [hk, hr, ← c_main_v299__main_v1430 hag hel]

theorem c_main_v302__main_v1433 : StableHlo.after Cert.KernelIdeal.Hand.KOps (Cert.KernelIdeal.Hand.Wl (F := Ideal) m ρ c) (Proc.devRef .tc Cert.KernelIdeal.main_v302) = StableHlo.after (Cert.ReferenceIdeal.Hand.ops (F := Ideal)) (StableHlo.launchContents m' c) (Proc.devRef .tc Cert.ReferenceIdeal.main_v1433) := by
  have hk := StableHlo.Ascending.eq_binary Cert.KernelIdeal.Hand.KOps_asc (Cert.KernelIdeal.Hand.Wl m ρ c) (Cert.KernelIdeal.Hand.mem_KOps_st7 (Cert.KernelIdeal.Hand.mem_st_7_12 (List.getElem_mem (l := Cert.KernelIdeal.GenP.hostOps7_12 (F := Ideal)) (n := 14) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part28 (List.getElem_mem (l := Cert.ReferenceIdeal.Hand.ops_part28 (F := Ideal)) (n := 60) (by decide))) rfl rfl rfl (by decide) (by decide) (ha := ⟨by decide, rfl⟩) (hb := ⟨by decide, rfl⟩) (hy := ⟨by decide, rfl⟩)
  rw [hk, hr, ← c_main_v300__main_v1431 hag hel, ← c_main_v301__main_v1432 hag hel]

theorem c_main_cst_51__main_cst_303 : StableHlo.after Cert.KernelIdeal.Hand.KOps (Cert.KernelIdeal.Hand.Wl (F := Ideal) m ρ c) (Proc.devRef .tc Cert.KernelIdeal.main_cst_51) = StableHlo.after (Cert.ReferenceIdeal.Hand.ops (F := Ideal)) (StableHlo.launchContents m' c) (Proc.devRef .tc Cert.ReferenceIdeal.main_cst_303) := by
  have hk := StableHlo.Ascending.eq_nullary Cert.KernelIdeal.Hand.KOps_asc (Cert.KernelIdeal.Hand.Wl m ρ c) (Cert.KernelIdeal.Hand.mem_KOps_st7 (Cert.KernelIdeal.Hand.mem_st_7_12 (List.getElem_mem (l := Cert.KernelIdeal.GenP.hostOps7_12 (F := Ideal)) (n := 15) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part28 (List.getElem_mem (l := Cert.ReferenceIdeal.Hand.ops_part28 (F := Ideal)) (n := 61) (by decide))) rfl (hy := ⟨by decide, rfl⟩)
  rw [hk, hr]

theorem c_main_call7_cst__main_call64_cst : StableHlo.after Cert.KernelIdeal.Hand.KOps (Cert.KernelIdeal.Hand.Wl (F := Ideal) m ρ c) (Proc.devRef .tc Cert.KernelIdeal.main_call7_cst) = StableHlo.after (Cert.ReferenceIdeal.Hand.ops (F := Ideal)) (StableHlo.launchContents m' c) (Proc.devRef .tc Cert.ReferenceIdeal.main_call64_cst) := by
  have hk := StableHlo.Ascending.eq_nullary Cert.KernelIdeal.Hand.KOps_asc (Cert.KernelIdeal.Hand.Wl m ρ c) (Cert.KernelIdeal.Hand.mem_KOps_st7 (Cert.KernelIdeal.Hand.mem_st_7_13 (List.getElem_mem (l := Cert.KernelIdeal.GenP.hostOps7_13 (F := Ideal)) (n := 0) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part29 (List.getElem_mem (l := Cert.ReferenceIdeal.Hand.ops_part29 (F := Ideal)) (n := 0) (by decide))) rfl (hy := ⟨by decide, rfl⟩)
  rw [hk, hr]

theorem c_main_call7_v0__main_call64_v0 : StableHlo.after Cert.KernelIdeal.Hand.KOps (Cert.KernelIdeal.Hand.Wl (F := Ideal) m ρ c) (Proc.devRef .tc Cert.KernelIdeal.main_call7_v0) = StableHlo.after (Cert.ReferenceIdeal.Hand.ops (F := Ideal)) (StableHlo.launchContents m' c) (Proc.devRef .tc Cert.ReferenceIdeal.main_call64_v0) := by
  have hk := StableHlo.Ascending.eq_unary Cert.KernelIdeal.Hand.KOps_asc (Cert.KernelIdeal.Hand.Wl m ρ c) (Cert.KernelIdeal.Hand.mem_KOps_st7 (Cert.KernelIdeal.Hand.mem_st_7_13 (List.getElem_mem (l := Cert.KernelIdeal.GenP.hostOps7_13 (F := Ideal)) (n := 1) (by decide)))) rfl rfl (by decide) (x := Cert.KernelIdeal.main_call7_cst) (y := Cert.KernelIdeal.main_call7_v0) (f := open Cert.KernelIdeal Cert.KernelIdeal.Gen in (broadcastInDim S2048x2048 ![] bcast_S_S2048x2048)) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part29 (List.getElem_mem (l := Cert.ReferenceIdeal.Hand.ops_part29 (F := Ideal)) (n := 1) (by decide))) rfl rfl (by decide) (x := Cert.ReferenceIdeal.main_call64_cst) (y := Cert.ReferenceIdeal.main_call64_v0) (f := open Cert.ReferenceIdeal Cert.ReferenceIdeal.Gen in (broadcastInDim S2048x2048 ![] bcast_S_S2048x2048)) (hx := ⟨by decide, rfl⟩) (hy := ⟨by decide, rfl⟩)
  rw [hk, hr, ← c_main_call7_cst__main_call64_cst hag hel]

theorem c_main_call7_v1__main_call64_v1 : StableHlo.after Cert.KernelIdeal.Hand.KOps (Cert.KernelIdeal.Hand.Wl (F := Ideal) m ρ c) (Proc.devRef .tc Cert.KernelIdeal.main_call7_v1) = StableHlo.after (Cert.ReferenceIdeal.Hand.ops (F := Ideal)) (StableHlo.launchContents m' c) (Proc.devRef .tc Cert.ReferenceIdeal.main_call64_v1) := by
  have hk := StableHlo.Ascending.eq_binary Cert.KernelIdeal.Hand.KOps_asc (Cert.KernelIdeal.Hand.Wl m ρ c) (Cert.KernelIdeal.Hand.mem_KOps_st7 (Cert.KernelIdeal.Hand.mem_st_7_13 (List.getElem_mem (l := Cert.KernelIdeal.GenP.hostOps7_13 (F := Ideal)) (n := 2) (by decide)))) rfl rfl rfl (by decide) (by decide) (a := Cert.KernelIdeal.main_v302) (b := Cert.KernelIdeal.main_call7_v0) (y := Cert.KernelIdeal.main_call7_v1) (f := open Cert.KernelIdeal Cert.KernelIdeal.Gen in (cmpf (F := Ideal) .oge)) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part29 (List.getElem_mem (l := Cert.ReferenceIdeal.Hand.ops_part29 (F := Ideal)) (n := 2) (by decide))) rfl rfl rfl (by decide) (by decide) (a := Cert.ReferenceIdeal.main_v1433) (b := Cert.ReferenceIdeal.main_call64_v0) (y := Cert.ReferenceIdeal.main_call64_v1) (f := open Cert.ReferenceIdeal Cert.ReferenceIdeal.Gen in (cmpf (F := Ideal) .oge)) (ha := ⟨by decide, rfl⟩) (hb := ⟨by decide, rfl⟩) (hy := ⟨by decide, rfl⟩)
  rw [hk, hr, ← c_main_v302__main_v1433 hag hel, ← c_main_call7_v0__main_call64_v0 hag hel]

theorem c_main_call7_v2__main_call64_v2 : StableHlo.after Cert.KernelIdeal.Hand.KOps (Cert.KernelIdeal.Hand.Wl (F := Ideal) m ρ c) (Proc.devRef .tc Cert.KernelIdeal.main_call7_v2) = StableHlo.after (Cert.ReferenceIdeal.Hand.ops (F := Ideal)) (StableHlo.launchContents m' c) (Proc.devRef .tc Cert.ReferenceIdeal.main_call64_v2) := by
  have hk := StableHlo.Ascending.eq_unary Cert.KernelIdeal.Hand.KOps_asc (Cert.KernelIdeal.Hand.Wl m ρ c) (Cert.KernelIdeal.Hand.mem_KOps_st7 (Cert.KernelIdeal.Hand.mem_st_7_13 (List.getElem_mem (l := Cert.KernelIdeal.GenP.hostOps7_13 (F := Ideal)) (n := 3) (by decide)))) rfl rfl (by decide) (x := Cert.KernelIdeal.main_cst_51) (y := Cert.KernelIdeal.main_call7_v2) (f := open Cert.KernelIdeal Cert.KernelIdeal.Gen in id) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part29 (List.getElem_mem (l := Cert.ReferenceIdeal.Hand.ops_part29 (F := Ideal)) (n := 3) (by decide))) rfl rfl (by decide) (x := Cert.ReferenceIdeal.main_cst_303) (y := Cert.ReferenceIdeal.main_call64_v2) (f := open Cert.ReferenceIdeal Cert.ReferenceIdeal.Gen in id) (hx := ⟨by decide, rfl⟩) (hy := ⟨by decide, rfl⟩)
  rw [hk, hr, ← c_main_cst_51__main_cst_303 hag hel]

theorem c_main_call7_v3__main_call64_v3 : StableHlo.after Cert.KernelIdeal.Hand.KOps (Cert.KernelIdeal.Hand.Wl (F := Ideal) m ρ c) (Proc.devRef .tc Cert.KernelIdeal.main_call7_v3) = StableHlo.after (Cert.ReferenceIdeal.Hand.ops (F := Ideal)) (StableHlo.launchContents m' c) (Proc.devRef .tc Cert.ReferenceIdeal.main_call64_v3) := by
  have hk := StableHlo.Ascending.eq_unary Cert.KernelIdeal.Hand.KOps_asc (Cert.KernelIdeal.Hand.Wl m ρ c) (Cert.KernelIdeal.Hand.mem_KOps_st7 (Cert.KernelIdeal.Hand.mem_st_7_13 (List.getElem_mem (l := Cert.KernelIdeal.GenP.hostOps7_13 (F := Ideal)) (n := 4) (by decide)))) rfl rfl (by decide) (x := Cert.KernelIdeal.main_call7_v2) (y := Cert.KernelIdeal.main_call7_v3) (f := open Cert.KernelIdeal Cert.KernelIdeal.Gen in (broadcastInDim S2048x2048 ![] bcast_S_S2048x2048)) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part29 (List.getElem_mem (l := Cert.ReferenceIdeal.Hand.ops_part29 (F := Ideal)) (n := 4) (by decide))) rfl rfl (by decide) (x := Cert.ReferenceIdeal.main_call64_v2) (y := Cert.ReferenceIdeal.main_call64_v3) (f := open Cert.ReferenceIdeal Cert.ReferenceIdeal.Gen in (broadcastInDim S2048x2048 ![] bcast_S_S2048x2048)) (hx := ⟨by decide, rfl⟩) (hy := ⟨by decide, rfl⟩)
  rw [hk, hr, ← c_main_call7_v2__main_call64_v2 hag hel]

theorem c_main_call7_v4__main_call64_v4 : StableHlo.after Cert.KernelIdeal.Hand.KOps (Cert.KernelIdeal.Hand.Wl (F := Ideal) m ρ c) (Proc.devRef .tc Cert.KernelIdeal.main_call7_v4) = StableHlo.after (Cert.ReferenceIdeal.Hand.ops (F := Ideal)) (StableHlo.launchContents m' c) (Proc.devRef .tc Cert.ReferenceIdeal.main_call64_v4) := by
  have hk := StableHlo.Ascending.eq_binary Cert.KernelIdeal.Hand.KOps_asc (Cert.KernelIdeal.Hand.Wl m ρ c) (Cert.KernelIdeal.Hand.mem_KOps_st7 (Cert.KernelIdeal.Hand.mem_st_7_13 (List.getElem_mem (l := Cert.KernelIdeal.GenP.hostOps7_13 (F := Ideal)) (n := 5) (by decide)))) rfl rfl rfl (by decide) (by decide) (a := Cert.KernelIdeal.main_call7_v3) (b := Cert.KernelIdeal.main_v302) (y := Cert.KernelIdeal.main_call7_v4) (f := open Cert.KernelIdeal Cert.KernelIdeal.Gen in mulf (F := Ideal)) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part29 (List.getElem_mem (l := Cert.ReferenceIdeal.Hand.ops_part29 (F := Ideal)) (n := 5) (by decide))) rfl rfl rfl (by decide) (by decide) (a := Cert.ReferenceIdeal.main_call64_v3) (b := Cert.ReferenceIdeal.main_v1433) (y := Cert.ReferenceIdeal.main_call64_v4) (f := open Cert.ReferenceIdeal Cert.ReferenceIdeal.Gen in mulf (F := Ideal)) (ha := ⟨by decide, rfl⟩) (hb := ⟨by decide, rfl⟩) (hy := ⟨by decide, rfl⟩)
  rw [hk, hr, ← c_main_call7_v3__main_call64_v3 hag hel, ← c_main_v302__main_v1433 hag hel]

theorem c_main_v303__main_v1434 : StableHlo.after Cert.KernelIdeal.Hand.KOps (Cert.KernelIdeal.Hand.Wl (F := Ideal) m ρ c) (Proc.devRef .tc Cert.KernelIdeal.main_v303) = StableHlo.after (Cert.ReferenceIdeal.Hand.ops (F := Ideal)) (StableHlo.launchContents m' c) (Proc.devRef .tc Cert.ReferenceIdeal.main_v1434) := by
  have hk := StableHlo.Ascending.eq_ternary Cert.KernelIdeal.Hand.KOps_asc (Cert.KernelIdeal.Hand.Wl m ρ c) (Cert.KernelIdeal.Hand.mem_KOps_st7 (Cert.KernelIdeal.Hand.mem_st_7_13 (List.getElem_mem (l := Cert.KernelIdeal.GenP.hostOps7_13 (F := Ideal)) (n := 6) (by decide)))) rfl rfl rfl rfl (by decide) (by decide) (by decide) (c := Cert.KernelIdeal.main_call7_v1) (a := Cert.KernelIdeal.main_v302) (b := Cert.KernelIdeal.main_call7_v4) (y := Cert.KernelIdeal.main_v303) (f := (select : (⟨Cert.KernelIdeal.S2048x2048, .i1⟩ : BufTy).Contents (Elt Ideal) → (⟨Cert.KernelIdeal.S2048x2048, .f32⟩ : BufTy).Contents (Elt Ideal) → (⟨Cert.KernelIdeal.S2048x2048, .f32⟩ : BufTy).Contents (Elt Ideal) → (⟨Cert.KernelIdeal.S2048x2048, .f32⟩ : BufTy).Contents (Elt Ideal))) (hc := ⟨by decide, rfl⟩) (ha := ⟨by decide, rfl⟩) (hb := ⟨by decide, rfl⟩) (hy := ⟨by decide, rfl⟩)
  have hr := StableHlo.Ascending.eq_ternary (Cert.ReferenceIdeal.Hand.ops_asc (F := Ideal)) (StableHlo.launchContents m' c) (Cert.ReferenceIdeal.Hand.mem_ops_part29 (List.getElem_mem (l := Cert.ReferenceIdeal.Hand.ops_part29 (F := Ideal)) (n := 6) (by decide))) rfl rfl rfl rfl (by decide) (by decide) (by decide) (c := Cert.ReferenceIdeal.main_call64_v1) (a := Cert.ReferenceIdeal.main_v1433) (b := Cert.ReferenceIdeal.main_call64_v4) (y := Cert.ReferenceIdeal.main_v1434) (f := (select : (⟨Cert.ReferenceIdeal.S2048x2048, .i1⟩ : BufTy).Contents (Elt Ideal) → (⟨Cert.ReferenceIdeal.S2048x2048, .f32⟩ : BufTy).Contents (Elt Ideal) → (⟨Cert.ReferenceIdeal.S2048x2048, .f32⟩ : BufTy).Contents (Elt Ideal) → (⟨Cert.ReferenceIdeal.S2048x2048, .f32⟩ : BufTy).Contents (Elt Ideal))) (hc := ⟨by decide, rfl⟩) (ha := ⟨by decide, rfl⟩) (hb := ⟨by decide, rfl⟩) (hy := ⟨by decide, rfl⟩)
  rw [hk, hr, ← c_main_call7_v1__main_call64_v1 hag hel, ← c_main_v302__main_v1433 hag hel, ← c_main_call7_v4__main_call64_v4 hag hel]

theorem c_main_cst_52__main_cst_304 : StableHlo.after Cert.KernelIdeal.Hand.KOps (Cert.KernelIdeal.Hand.Wl (F := Ideal) m ρ c) (Proc.devRef .tc Cert.KernelIdeal.main_cst_52) = StableHlo.after (Cert.ReferenceIdeal.Hand.ops (F := Ideal)) (StableHlo.launchContents m' c) (Proc.devRef .tc Cert.ReferenceIdeal.main_cst_304) := by
  have hk := StableHlo.Ascending.eq_nullary Cert.KernelIdeal.Hand.KOps_asc (Cert.KernelIdeal.Hand.Wl m ρ c) (Cert.KernelIdeal.Hand.mem_KOps_st7 (Cert.KernelIdeal.Hand.mem_st_7_14 (List.getElem_mem (l := Cert.KernelIdeal.GenP.hostOps7_14 (F := Ideal)) (n := 0) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part29 (List.getElem_mem (l := Cert.ReferenceIdeal.Hand.ops_part29 (F := Ideal)) (n := 7) (by decide))) rfl (hy := ⟨by decide, rfl⟩)
  rw [hk, hr]

theorem c_main_v304__main_v1435 : StableHlo.after Cert.KernelIdeal.Hand.KOps (Cert.KernelIdeal.Hand.Wl (F := Ideal) m ρ c) (Proc.devRef .tc Cert.KernelIdeal.main_v304) = StableHlo.after (Cert.ReferenceIdeal.Hand.ops (F := Ideal)) (StableHlo.launchContents m' c) (Proc.devRef .tc Cert.ReferenceIdeal.main_v1435) := by
  have hk := StableHlo.Ascending.eq_binary Cert.KernelIdeal.Hand.KOps_asc (Cert.KernelIdeal.Hand.Wl m ρ c) (Cert.KernelIdeal.Hand.mem_KOps_st7 (Cert.KernelIdeal.Hand.mem_st_7_14 (List.getElem_mem (l := Cert.KernelIdeal.GenP.hostOps7_14 (F := Ideal)) (n := 1) (by decide)))) rfl rfl rfl (by decide) (by decide) (a := Cert.KernelIdeal.main_v196) (b := Cert.KernelIdeal.main_cst_52) (y := Cert.KernelIdeal.main_v304) (f := open Cert.KernelIdeal Cert.KernelIdeal.Gen in (fun x v => Host.reduce (FloatOps.minimumf (F := Ideal)) x v reducesTo_S2048x1_S_d0_1 h_S_)) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part29 (List.getElem_mem (l := Cert.ReferenceIdeal.Hand.ops_part29 (F := Ideal)) (n := 8) (by decide))) rfl rfl rfl (by decide) (by decide) (a := Cert.ReferenceIdeal.main_v1418) (b := Cert.ReferenceIdeal.main_cst_304) (y := Cert.ReferenceIdeal.main_v1435) (f := open Cert.ReferenceIdeal Cert.ReferenceIdeal.Gen in (fun x v => Host.reduce (FloatOps.minimumf (F := Ideal)) x v reducesTo_S2048x1_S_d0_1 h_S_)) (ha := ⟨by decide, rfl⟩) (hb := ⟨by decide, rfl⟩) (hy := ⟨by decide, rfl⟩)
  rw [hk, hr, ← c_main_v196__main_v1418 hag hel, ← c_main_cst_52__main_cst_304 hag hel]

theorem c_main_v305__main_v1436 : StableHlo.after Cert.KernelIdeal.Hand.KOps (Cert.KernelIdeal.Hand.Wl (F := Ideal) m ρ c) (Proc.devRef .tc Cert.KernelIdeal.main_v305) = StableHlo.after (Cert.ReferenceIdeal.Hand.ops (F := Ideal)) (StableHlo.launchContents m' c) (Proc.devRef .tc Cert.ReferenceIdeal.main_v1436) := by
  have hk := StableHlo.Ascending.eq_unary Cert.KernelIdeal.Hand.KOps_asc (Cert.KernelIdeal.Hand.Wl m ρ c) (Cert.KernelIdeal.Hand.mem_KOps_st7 (Cert.KernelIdeal.Hand.mem_st_7_14 (List.getElem_mem (l := Cert.KernelIdeal.GenP.hostOps7_14 (F := Ideal)) (n := 2) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part29 (List.getElem_mem (l := Cert.ReferenceIdeal.Hand.ops_part29 (F := Ideal)) (n := 9) (by decide))) rfl rfl (by decide) (hx := ⟨by decide, rfl⟩) (hy := ⟨by decide, rfl⟩)
  rw [hk, hr, ← c_main_v304__main_v1435 hag hel]

theorem c_main_v306__main_v1437 : StableHlo.after Cert.KernelIdeal.Hand.KOps (Cert.KernelIdeal.Hand.Wl (F := Ideal) m ρ c) (Proc.devRef .tc Cert.KernelIdeal.main_v306) = StableHlo.after (Cert.ReferenceIdeal.Hand.ops (F := Ideal)) (StableHlo.launchContents m' c) (Proc.devRef .tc Cert.ReferenceIdeal.main_v1437) := by
  have hk := StableHlo.Ascending.eq_binary Cert.KernelIdeal.Hand.KOps_asc (Cert.KernelIdeal.Hand.Wl m ρ c) (Cert.KernelIdeal.Hand.mem_KOps_st7 (Cert.KernelIdeal.Hand.mem_st_7_14 (List.getElem_mem (l := Cert.KernelIdeal.GenP.hostOps7_14 (F := Ideal)) (n := 3) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part29 (List.getElem_mem (l := Cert.ReferenceIdeal.Hand.ops_part29 (F := Ideal)) (n := 10) (by decide))) rfl rfl rfl (by decide) (by decide) (ha := ⟨by decide, rfl⟩) (hb := ⟨by decide, rfl⟩) (hy := ⟨by decide, rfl⟩)
  rw [hk, hr, ← c_main_v196__main_v1418 hag hel, ← c_main_v305__main_v1436 hag hel]

theorem c_main_cst_53__main_cst_305 : StableHlo.after Cert.KernelIdeal.Hand.KOps (Cert.KernelIdeal.Hand.Wl (F := Ideal) m ρ c) (Proc.devRef .tc Cert.KernelIdeal.main_cst_53) = StableHlo.after (Cert.ReferenceIdeal.Hand.ops (F := Ideal)) (StableHlo.launchContents m' c) (Proc.devRef .tc Cert.ReferenceIdeal.main_cst_305) := by
  have hk := StableHlo.Ascending.eq_nullary Cert.KernelIdeal.Hand.KOps_asc (Cert.KernelIdeal.Hand.Wl m ρ c) (Cert.KernelIdeal.Hand.mem_KOps_st7 (Cert.KernelIdeal.Hand.mem_st_7_14 (List.getElem_mem (l := Cert.KernelIdeal.GenP.hostOps7_14 (F := Ideal)) (n := 4) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part29 (List.getElem_mem (l := Cert.ReferenceIdeal.Hand.ops_part29 (F := Ideal)) (n := 11) (by decide))) rfl (hy := ⟨by decide, rfl⟩)
  rw [hk, hr]

theorem c_main_v307__main_v1438 : StableHlo.after Cert.KernelIdeal.Hand.KOps (Cert.KernelIdeal.Hand.Wl (F := Ideal) m ρ c) (Proc.devRef .tc Cert.KernelIdeal.main_v307) = StableHlo.after (Cert.ReferenceIdeal.Hand.ops (F := Ideal)) (StableHlo.launchContents m' c) (Proc.devRef .tc Cert.ReferenceIdeal.main_v1438) := by
  have hk := StableHlo.Ascending.eq_binary Cert.KernelIdeal.Hand.KOps_asc (Cert.KernelIdeal.Hand.Wl m ρ c) (Cert.KernelIdeal.Hand.mem_KOps_st7 (Cert.KernelIdeal.Hand.mem_st_7_14 (List.getElem_mem (l := Cert.KernelIdeal.GenP.hostOps7_14 (F := Ideal)) (n := 5) (by decide)))) rfl rfl rfl (by decide) (by decide) (a := Cert.KernelIdeal.main_v196) (b := Cert.KernelIdeal.main_cst_53) (y := Cert.KernelIdeal.main_v307) (f := open Cert.KernelIdeal Cert.KernelIdeal.Gen in (fun x v => Host.reduce (FloatOps.maximumf (F := Ideal)) x v reducesTo_S2048x1_S_d0_1 h_S_)) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part29 (List.getElem_mem (l := Cert.ReferenceIdeal.Hand.ops_part29 (F := Ideal)) (n := 12) (by decide))) rfl rfl rfl (by decide) (by decide) (a := Cert.ReferenceIdeal.main_v1418) (b := Cert.ReferenceIdeal.main_cst_305) (y := Cert.ReferenceIdeal.main_v1438) (f := open Cert.ReferenceIdeal Cert.ReferenceIdeal.Gen in (fun x v => Host.reduce (FloatOps.maximumf (F := Ideal)) x v reducesTo_S2048x1_S_d0_1 h_S_)) (ha := ⟨by decide, rfl⟩) (hb := ⟨by decide, rfl⟩) (hy := ⟨by decide, rfl⟩)
  rw [hk, hr, ← c_main_v196__main_v1418 hag hel, ← c_main_cst_53__main_cst_305 hag hel]

theorem c_main_cst_54__main_cst_306 : StableHlo.after Cert.KernelIdeal.Hand.KOps (Cert.KernelIdeal.Hand.Wl (F := Ideal) m ρ c) (Proc.devRef .tc Cert.KernelIdeal.main_cst_54) = StableHlo.after (Cert.ReferenceIdeal.Hand.ops (F := Ideal)) (StableHlo.launchContents m' c) (Proc.devRef .tc Cert.ReferenceIdeal.main_cst_306) := by
  have hk := StableHlo.Ascending.eq_nullary Cert.KernelIdeal.Hand.KOps_asc (Cert.KernelIdeal.Hand.Wl m ρ c) (Cert.KernelIdeal.Hand.mem_KOps_st7 (Cert.KernelIdeal.Hand.mem_st_7_14 (List.getElem_mem (l := Cert.KernelIdeal.GenP.hostOps7_14 (F := Ideal)) (n := 6) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part29 (List.getElem_mem (l := Cert.ReferenceIdeal.Hand.ops_part29 (F := Ideal)) (n := 13) (by decide))) rfl (hy := ⟨by decide, rfl⟩)
  rw [hk, hr]

theorem c_main_v308__main_v1439 : StableHlo.after Cert.KernelIdeal.Hand.KOps (Cert.KernelIdeal.Hand.Wl (F := Ideal) m ρ c) (Proc.devRef .tc Cert.KernelIdeal.main_v308) = StableHlo.after (Cert.ReferenceIdeal.Hand.ops (F := Ideal)) (StableHlo.launchContents m' c) (Proc.devRef .tc Cert.ReferenceIdeal.main_v1439) := by
  have hk := StableHlo.Ascending.eq_binary Cert.KernelIdeal.Hand.KOps_asc (Cert.KernelIdeal.Hand.Wl m ρ c) (Cert.KernelIdeal.Hand.mem_KOps_st7 (Cert.KernelIdeal.Hand.mem_st_7_14 (List.getElem_mem (l := Cert.KernelIdeal.GenP.hostOps7_14 (F := Ideal)) (n := 7) (by decide)))) rfl rfl rfl (by decide) (by decide) (a := Cert.KernelIdeal.main_v196) (b := Cert.KernelIdeal.main_cst_54) (y := Cert.KernelIdeal.main_v308) (f := open Cert.KernelIdeal Cert.KernelIdeal.Gen in (fun x v => Host.reduce (FloatOps.minimumf (F := Ideal)) x v reducesTo_S2048x1_S_d0_1 h_S_)) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part29 (List.getElem_mem (l := Cert.ReferenceIdeal.Hand.ops_part29 (F := Ideal)) (n := 14) (by decide))) rfl rfl rfl (by decide) (by decide) (a := Cert.ReferenceIdeal.main_v1418) (b := Cert.ReferenceIdeal.main_cst_306) (y := Cert.ReferenceIdeal.main_v1439) (f := open Cert.ReferenceIdeal Cert.ReferenceIdeal.Gen in (fun x v => Host.reduce (FloatOps.minimumf (F := Ideal)) x v reducesTo_S2048x1_S_d0_1 h_S_)) (ha := ⟨by decide, rfl⟩) (hb := ⟨by decide, rfl⟩) (hy := ⟨by decide, rfl⟩)
  rw [hk, hr, ← c_main_v196__main_v1418 hag hel, ← c_main_cst_54__main_cst_306 hag hel]

theorem c_main_v309__main_v1440 : StableHlo.after Cert.KernelIdeal.Hand.KOps (Cert.KernelIdeal.Hand.Wl (F := Ideal) m ρ c) (Proc.devRef .tc Cert.KernelIdeal.main_v309) = StableHlo.after (Cert.ReferenceIdeal.Hand.ops (F := Ideal)) (StableHlo.launchContents m' c) (Proc.devRef .tc Cert.ReferenceIdeal.main_v1440) := by
  have hk := StableHlo.Ascending.eq_binary Cert.KernelIdeal.Hand.KOps_asc (Cert.KernelIdeal.Hand.Wl m ρ c) (Cert.KernelIdeal.Hand.mem_KOps_st7 (Cert.KernelIdeal.Hand.mem_st_7_14 (List.getElem_mem (l := Cert.KernelIdeal.GenP.hostOps7_14 (F := Ideal)) (n := 8) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part29 (List.getElem_mem (l := Cert.ReferenceIdeal.Hand.ops_part29 (F := Ideal)) (n := 15) (by decide))) rfl rfl rfl (by decide) (by decide) (ha := ⟨by decide, rfl⟩) (hb := ⟨by decide, rfl⟩) (hy := ⟨by decide, rfl⟩)
  rw [hk, hr, ← c_main_v307__main_v1438 hag hel, ← c_main_v308__main_v1439 hag hel]

theorem c_main_v310__main_v1441 : StableHlo.after Cert.KernelIdeal.Hand.KOps (Cert.KernelIdeal.Hand.Wl (F := Ideal) m ρ c) (Proc.devRef .tc Cert.KernelIdeal.main_v310) = StableHlo.after (Cert.ReferenceIdeal.Hand.ops (F := Ideal)) (StableHlo.launchContents m' c) (Proc.devRef .tc Cert.ReferenceIdeal.main_v1441) := by
  have hk := StableHlo.Ascending.eq_unary Cert.KernelIdeal.Hand.KOps_asc (Cert.KernelIdeal.Hand.Wl m ρ c) (Cert.KernelIdeal.Hand.mem_KOps_st7 (Cert.KernelIdeal.Hand.mem_st_7_14 (List.getElem_mem (l := Cert.KernelIdeal.GenP.hostOps7_14 (F := Ideal)) (n := 9) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part29 (List.getElem_mem (l := Cert.ReferenceIdeal.Hand.ops_part29 (F := Ideal)) (n := 16) (by decide))) rfl rfl (by decide) (hx := ⟨by decide, rfl⟩) (hy := ⟨by decide, rfl⟩)
  rw [hk, hr, ← c_main_v309__main_v1440 hag hel]

theorem c_main_v311__main_v1442 : StableHlo.after Cert.KernelIdeal.Hand.KOps (Cert.KernelIdeal.Hand.Wl (F := Ideal) m ρ c) (Proc.devRef .tc Cert.KernelIdeal.main_v311) = StableHlo.after (Cert.ReferenceIdeal.Hand.ops (F := Ideal)) (StableHlo.launchContents m' c) (Proc.devRef .tc Cert.ReferenceIdeal.main_v1442) := by
  have hk := StableHlo.Ascending.eq_binary Cert.KernelIdeal.Hand.KOps_asc (Cert.KernelIdeal.Hand.Wl m ρ c) (Cert.KernelIdeal.Hand.mem_KOps_st7 (Cert.KernelIdeal.Hand.mem_st_7_14 (List.getElem_mem (l := Cert.KernelIdeal.GenP.hostOps7_14 (F := Ideal)) (n := 10) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part29 (List.getElem_mem (l := Cert.ReferenceIdeal.Hand.ops_part29 (F := Ideal)) (n := 17) (by decide))) rfl rfl rfl (by decide) (by decide) (ha := ⟨by decide, rfl⟩) (hb := ⟨by decide, rfl⟩) (hy := ⟨by decide, rfl⟩)
  rw [hk, hr, ← c_main_v306__main_v1437 hag hel, ← c_main_v310__main_v1441 hag hel]

theorem c_main_cst_55__main_cst_307 : StableHlo.after Cert.KernelIdeal.Hand.KOps (Cert.KernelIdeal.Hand.Wl (F := Ideal) m ρ c) (Proc.devRef .tc Cert.KernelIdeal.main_cst_55) = StableHlo.after (Cert.ReferenceIdeal.Hand.ops (F := Ideal)) (StableHlo.launchContents m' c) (Proc.devRef .tc Cert.ReferenceIdeal.main_cst_307) := by
  have hk := StableHlo.Ascending.eq_nullary Cert.KernelIdeal.Hand.KOps_asc (Cert.KernelIdeal.Hand.Wl m ρ c) (Cert.KernelIdeal.Hand.mem_KOps_st7 (Cert.KernelIdeal.Hand.mem_st_7_14 (List.getElem_mem (l := Cert.KernelIdeal.GenP.hostOps7_14 (F := Ideal)) (n := 11) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part29 (List.getElem_mem (l := Cert.ReferenceIdeal.Hand.ops_part29 (F := Ideal)) (n := 18) (by decide))) rfl (hy := ⟨by decide, rfl⟩)
  rw [hk, hr]

theorem c_main_v312__main_v1443 : StableHlo.after Cert.KernelIdeal.Hand.KOps (Cert.KernelIdeal.Hand.Wl (F := Ideal) m ρ c) (Proc.devRef .tc Cert.KernelIdeal.main_v312) = StableHlo.after (Cert.ReferenceIdeal.Hand.ops (F := Ideal)) (StableHlo.launchContents m' c) (Proc.devRef .tc Cert.ReferenceIdeal.main_v1443) := by
  have hk := StableHlo.Ascending.eq_binary Cert.KernelIdeal.Hand.KOps_asc (Cert.KernelIdeal.Hand.Wl m ρ c) (Cert.KernelIdeal.Hand.mem_KOps_st7 (Cert.KernelIdeal.Hand.mem_st_7_14 (List.getElem_mem (l := Cert.KernelIdeal.GenP.hostOps7_14 (F := Ideal)) (n := 12) (by decide)))) rfl rfl rfl (by decide) (by decide) (a := Cert.KernelIdeal.main_v303) (b := Cert.KernelIdeal.main_cst_55) (y := Cert.KernelIdeal.main_v312) (f := open Cert.KernelIdeal Cert.KernelIdeal.Gen in (fun x v => Host.reduce (FloatOps.maximumf (F := Ideal)) x v reducesTo_S2048x2048_S_d0_1 h_S_)) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part29 (List.getElem_mem (l := Cert.ReferenceIdeal.Hand.ops_part29 (F := Ideal)) (n := 19) (by decide))) rfl rfl rfl (by decide) (by decide) (a := Cert.ReferenceIdeal.main_v1434) (b := Cert.ReferenceIdeal.main_cst_307) (y := Cert.ReferenceIdeal.main_v1443) (f := open Cert.ReferenceIdeal Cert.ReferenceIdeal.Gen in (fun x v => Host.reduce (FloatOps.maximumf (F := Ideal)) x v reducesTo_S2048x2048_S_d0_1 h_S_)) (ha := ⟨by decide, rfl⟩) (hb := ⟨by decide, rfl⟩) (hy := ⟨by decide, rfl⟩)
  rw [hk, hr, ← c_main_v303__main_v1434 hag hel, ← c_main_cst_55__main_cst_307 hag hel]

theorem c_main_v313__main_v1444 : StableHlo.after Cert.KernelIdeal.Hand.KOps (Cert.KernelIdeal.Hand.Wl (F := Ideal) m ρ c) (Proc.devRef .tc Cert.KernelIdeal.main_v313) = StableHlo.after (Cert.ReferenceIdeal.Hand.ops (F := Ideal)) (StableHlo.launchContents m' c) (Proc.devRef .tc Cert.ReferenceIdeal.main_v1444) := by
  have hk := StableHlo.Ascending.eq_unary Cert.KernelIdeal.Hand.KOps_asc (Cert.KernelIdeal.Hand.Wl m ρ c) (Cert.KernelIdeal.Hand.mem_KOps_st7 (Cert.KernelIdeal.Hand.mem_st_7_14 (List.getElem_mem (l := Cert.KernelIdeal.GenP.hostOps7_14 (F := Ideal)) (n := 13) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part29 (List.getElem_mem (l := Cert.ReferenceIdeal.Hand.ops_part29 (F := Ideal)) (n := 20) (by decide))) rfl rfl (by decide) (hx := ⟨by decide, rfl⟩) (hy := ⟨by decide, rfl⟩)
  rw [hk, hr, ← c_main_v312__main_v1443 hag hel]

theorem c_main_v314__main_v1445 : StableHlo.after Cert.KernelIdeal.Hand.KOps (Cert.KernelIdeal.Hand.Wl (F := Ideal) m ρ c) (Proc.devRef .tc Cert.KernelIdeal.main_v314) = StableHlo.after (Cert.ReferenceIdeal.Hand.ops (F := Ideal)) (StableHlo.launchContents m' c) (Proc.devRef .tc Cert.ReferenceIdeal.main_v1445) := by
  have hk := StableHlo.Ascending.eq_binary Cert.KernelIdeal.Hand.KOps_asc (Cert.KernelIdeal.Hand.Wl m ρ c) (Cert.KernelIdeal.Hand.mem_KOps_st7 (Cert.KernelIdeal.Hand.mem_st_7_14 (List.getElem_mem (l := Cert.KernelIdeal.GenP.hostOps7_14 (F := Ideal)) (n := 14) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part29 (List.getElem_mem (l := Cert.ReferenceIdeal.Hand.ops_part29 (F := Ideal)) (n := 21) (by decide))) rfl rfl rfl (by decide) (by decide) (ha := ⟨by decide, rfl⟩) (hb := ⟨by decide, rfl⟩) (hy := ⟨by decide, rfl⟩)
  rw [hk, hr, ← c_main_v311__main_v1442 hag hel, ← c_main_v313__main_v1444 hag hel]

theorem c_main_cst_56__main_cst_308 : StableHlo.after Cert.KernelIdeal.Hand.KOps (Cert.KernelIdeal.Hand.Wl (F := Ideal) m ρ c) (Proc.devRef .tc Cert.KernelIdeal.main_cst_56) = StableHlo.after (Cert.ReferenceIdeal.Hand.ops (F := Ideal)) (StableHlo.launchContents m' c) (Proc.devRef .tc Cert.ReferenceIdeal.main_cst_308) := by
  have hk := StableHlo.Ascending.eq_nullary Cert.KernelIdeal.Hand.KOps_asc (Cert.KernelIdeal.Hand.Wl m ρ c) (Cert.KernelIdeal.Hand.mem_KOps_st7 (Cert.KernelIdeal.Hand.mem_st_7_14 (List.getElem_mem (l := Cert.KernelIdeal.GenP.hostOps7_14 (F := Ideal)) (n := 15) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part29 (List.getElem_mem (l := Cert.ReferenceIdeal.Hand.ops_part29 (F := Ideal)) (n := 22) (by decide))) rfl (hy := ⟨by decide, rfl⟩)
  rw [hk, hr]

theorem c_main_v315__main_v1446 : StableHlo.after Cert.KernelIdeal.Hand.KOps (Cert.KernelIdeal.Hand.Wl (F := Ideal) m ρ c) (Proc.devRef .tc Cert.KernelIdeal.main_v315) = StableHlo.after (Cert.ReferenceIdeal.Hand.ops (F := Ideal)) (StableHlo.launchContents m' c) (Proc.devRef .tc Cert.ReferenceIdeal.main_v1446) := by
  have hk := StableHlo.Ascending.eq_unary Cert.KernelIdeal.Hand.KOps_asc (Cert.KernelIdeal.Hand.Wl m ρ c) (Cert.KernelIdeal.Hand.mem_KOps_st7 (Cert.KernelIdeal.Hand.mem_st_7_14 (List.getElem_mem (l := Cert.KernelIdeal.GenP.hostOps7_14 (F := Ideal)) (n := 16) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part29 (List.getElem_mem (l := Cert.ReferenceIdeal.Hand.ops_part29 (F := Ideal)) (n := 23) (by decide))) rfl rfl (by decide) (hx := ⟨by decide, rfl⟩) (hy := ⟨by decide, rfl⟩)
  rw [hk, hr, ← c_main_cst_56__main_cst_308 hag hel]

theorem c_main_v316__main_v1447 : StableHlo.after Cert.KernelIdeal.Hand.KOps (Cert.KernelIdeal.Hand.Wl (F := Ideal) m ρ c) (Proc.devRef .tc Cert.KernelIdeal.main_v316) = StableHlo.after (Cert.ReferenceIdeal.Hand.ops (F := Ideal)) (StableHlo.launchContents m' c) (Proc.devRef .tc Cert.ReferenceIdeal.main_v1447) := by
  have hk := StableHlo.Ascending.eq_binary Cert.KernelIdeal.Hand.KOps_asc (Cert.KernelIdeal.Hand.Wl m ρ c) (Cert.KernelIdeal.Hand.mem_KOps_st7 (Cert.KernelIdeal.Hand.mem_st_7_14 (List.getElem_mem (l := Cert.KernelIdeal.GenP.hostOps7_14 (F := Ideal)) (n := 17) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part29 (List.getElem_mem (l := Cert.ReferenceIdeal.Hand.ops_part29 (F := Ideal)) (n := 24) (by decide))) rfl rfl rfl (by decide) (by decide) (ha := ⟨by decide, rfl⟩) (hb := ⟨by decide, rfl⟩) (hy := ⟨by decide, rfl⟩)
  rw [hk, hr, ← c_main_v24__main_v122 hag hel, ← c_main_v315__main_v1446 hag hel]

theorem c_main_v317__main_v1448 : StableHlo.after Cert.KernelIdeal.Hand.KOps (Cert.KernelIdeal.Hand.Wl (F := Ideal) m ρ c) (Proc.devRef .tc Cert.KernelIdeal.main_v317) = StableHlo.after (Cert.ReferenceIdeal.Hand.ops (F := Ideal)) (StableHlo.launchContents m' c) (Proc.devRef .tc Cert.ReferenceIdeal.main_v1448) := by
  have hk := StableHlo.Ascending.eq_unary Cert.KernelIdeal.Hand.KOps_asc (Cert.KernelIdeal.Hand.Wl m ρ c) (Cert.KernelIdeal.Hand.mem_KOps_st7 (Cert.KernelIdeal.Hand.mem_st_7_14 (List.getElem_mem (l := Cert.KernelIdeal.GenP.hostOps7_14 (F := Ideal)) (n := 18) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part29 (List.getElem_mem (l := Cert.ReferenceIdeal.Hand.ops_part29 (F := Ideal)) (n := 25) (by decide))) rfl rfl (by decide) (hx := ⟨by decide, rfl⟩) (hy := ⟨by decide, rfl⟩)
  rw [hk, hr, ← c_main_v314__main_v1445 hag hel]

theorem c_main_v318__main_v1449 : StableHlo.after Cert.KernelIdeal.Hand.KOps (Cert.KernelIdeal.Hand.Wl (F := Ideal) m ρ c) (Proc.devRef .tc Cert.KernelIdeal.main_v318) = StableHlo.after (Cert.ReferenceIdeal.Hand.ops (F := Ideal)) (StableHlo.launchContents m' c) (Proc.devRef .tc Cert.ReferenceIdeal.main_v1449) := by
  have hk := StableHlo.Ascending.eq_binary Cert.KernelIdeal.Hand.KOps_asc (Cert.KernelIdeal.Hand.Wl m ρ c) (Cert.KernelIdeal.Hand.mem_KOps_st7 (Cert.KernelIdeal.Hand.mem_st_7_14 (List.getElem_mem (l := Cert.KernelIdeal.GenP.hostOps7_14 (F := Ideal)) (n := 19) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part29 (List.getElem_mem (l := Cert.ReferenceIdeal.Hand.ops_part29 (F := Ideal)) (n := 26) (by decide))) rfl rfl rfl (by decide) (by decide) (ha := ⟨by decide, rfl⟩) (hb := ⟨by decide, rfl⟩) (hy := ⟨by decide, rfl⟩)
  rw [hk, hr, ← c_main_v303__main_v1434 hag hel, ← c_main_v317__main_v1448 hag hel]

theorem c_main_cst_57__main_cst_309 : StableHlo.after Cert.KernelIdeal.Hand.KOps (Cert.KernelIdeal.Hand.Wl (F := Ideal) m ρ c) (Proc.devRef .tc Cert.KernelIdeal.main_cst_57) = StableHlo.after (Cert.ReferenceIdeal.Hand.ops (F := Ideal)) (StableHlo.launchContents m' c) (Proc.devRef .tc Cert.ReferenceIdeal.main_cst_309) := by
  have hk := StableHlo.Ascending.eq_nullary Cert.KernelIdeal.Hand.KOps_asc (Cert.KernelIdeal.Hand.Wl m ρ c) (Cert.KernelIdeal.Hand.mem_KOps_st7 (Cert.KernelIdeal.Hand.mem_st_7_14 (List.getElem_mem (l := Cert.KernelIdeal.GenP.hostOps7_14 (F := Ideal)) (n := 20) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part29 (List.getElem_mem (l := Cert.ReferenceIdeal.Hand.ops_part29 (F := Ideal)) (n := 27) (by decide))) rfl (hy := ⟨by decide, rfl⟩)
  rw [hk, hr]

theorem c_main_call8_v0__main_call65_v0 : StableHlo.after Cert.KernelIdeal.Hand.KOps (Cert.KernelIdeal.Hand.Wl (F := Ideal) m ρ c) (Proc.devRef .tc Cert.KernelIdeal.main_call8_v0) = StableHlo.after (Cert.ReferenceIdeal.Hand.ops (F := Ideal)) (StableHlo.launchContents m' c) (Proc.devRef .tc Cert.ReferenceIdeal.main_call65_v0) := by
  have hk := StableHlo.Ascending.eq_unary Cert.KernelIdeal.Hand.KOps_asc (Cert.KernelIdeal.Hand.Wl m ρ c) (Cert.KernelIdeal.Hand.mem_KOps_st7 (Cert.KernelIdeal.Hand.mem_st_7_15 (List.getElem_mem (l := Cert.KernelIdeal.GenP.hostOps7_15 (F := Ideal)) (n := 0) (by decide)))) rfl rfl (by decide) (x := Cert.KernelIdeal.main_cst_57) (y := Cert.KernelIdeal.main_call8_v0) (f := open Cert.KernelIdeal Cert.KernelIdeal.Gen in id) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part29 (List.getElem_mem (l := Cert.ReferenceIdeal.Hand.ops_part29 (F := Ideal)) (n := 28) (by decide))) rfl rfl (by decide) (x := Cert.ReferenceIdeal.main_cst_309) (y := Cert.ReferenceIdeal.main_call65_v0) (f := open Cert.ReferenceIdeal Cert.ReferenceIdeal.Gen in id) (hx := ⟨by decide, rfl⟩) (hy := ⟨by decide, rfl⟩)
  rw [hk, hr, ← c_main_cst_57__main_cst_309 hag hel]

theorem c_main_call8_v1__main_call65_v1 : StableHlo.after Cert.KernelIdeal.Hand.KOps (Cert.KernelIdeal.Hand.Wl (F := Ideal) m ρ c) (Proc.devRef .tc Cert.KernelIdeal.main_call8_v1) = StableHlo.after (Cert.ReferenceIdeal.Hand.ops (F := Ideal)) (StableHlo.launchContents m' c) (Proc.devRef .tc Cert.ReferenceIdeal.main_call65_v1) := by
  have hk := StableHlo.Ascending.eq_unary Cert.KernelIdeal.Hand.KOps_asc (Cert.KernelIdeal.Hand.Wl m ρ c) (Cert.KernelIdeal.Hand.mem_KOps_st7 (Cert.KernelIdeal.Hand.mem_st_7_15 (List.getElem_mem (l := Cert.KernelIdeal.GenP.hostOps7_15 (F := Ideal)) (n := 1) (by decide)))) rfl rfl (by decide) (x := Cert.KernelIdeal.main_call8_v0) (y := Cert.KernelIdeal.main_call8_v1) (f := open Cert.KernelIdeal Cert.KernelIdeal.Gen in (broadcastInDim S2048x2048 ![] bcast_S_S2048x2048)) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part29 (List.getElem_mem (l := Cert.ReferenceIdeal.Hand.ops_part29 (F := Ideal)) (n := 29) (by decide))) rfl rfl (by decide) (x := Cert.ReferenceIdeal.main_call65_v0) (y := Cert.ReferenceIdeal.main_call65_v1) (f := open Cert.ReferenceIdeal Cert.ReferenceIdeal.Gen in (broadcastInDim S2048x2048 ![] bcast_S_S2048x2048)) (hx := ⟨by decide, rfl⟩) (hy := ⟨by decide, rfl⟩)
  rw [hk, hr, ← c_main_call8_v0__main_call65_v0 hag hel]

theorem c_main_v319__main_v1450 : StableHlo.after Cert.KernelIdeal.Hand.KOps (Cert.KernelIdeal.Hand.Wl (F := Ideal) m ρ c) (Proc.devRef .tc Cert.KernelIdeal.main_v319) = StableHlo.after (Cert.ReferenceIdeal.Hand.ops (F := Ideal)) (StableHlo.launchContents m' c) (Proc.devRef .tc Cert.ReferenceIdeal.main_v1450) := by
  have hk := StableHlo.Ascending.eq_ternary Cert.KernelIdeal.Hand.KOps_asc (Cert.KernelIdeal.Hand.Wl m ρ c) (Cert.KernelIdeal.Hand.mem_KOps_st7 (Cert.KernelIdeal.Hand.mem_st_7_15 (List.getElem_mem (l := Cert.KernelIdeal.GenP.hostOps7_15 (F := Ideal)) (n := 2) (by decide)))) rfl rfl rfl rfl (by decide) (by decide) (by decide) (c := Cert.KernelIdeal.main_v316) (a := Cert.KernelIdeal.main_v318) (b := Cert.KernelIdeal.main_call8_v1) (y := Cert.KernelIdeal.main_v319) (f := (select : (⟨Cert.KernelIdeal.S2048x2048, .i1⟩ : BufTy).Contents (Elt Ideal) → (⟨Cert.KernelIdeal.S2048x2048, .f32⟩ : BufTy).Contents (Elt Ideal) → (⟨Cert.KernelIdeal.S2048x2048, .f32⟩ : BufTy).Contents (Elt Ideal) → (⟨Cert.KernelIdeal.S2048x2048, .f32⟩ : BufTy).Contents (Elt Ideal))) (hc := ⟨by decide, rfl⟩) (ha := ⟨by decide, rfl⟩) (hb := ⟨by decide, rfl⟩) (hy := ⟨by decide, rfl⟩)
  have hr := StableHlo.Ascending.eq_ternary (Cert.ReferenceIdeal.Hand.ops_asc (F := Ideal)) (StableHlo.launchContents m' c) (Cert.ReferenceIdeal.Hand.mem_ops_part29 (List.getElem_mem (l := Cert.ReferenceIdeal.Hand.ops_part29 (F := Ideal)) (n := 30) (by decide))) rfl rfl rfl rfl (by decide) (by decide) (by decide) (c := Cert.ReferenceIdeal.main_v1447) (a := Cert.ReferenceIdeal.main_v1449) (b := Cert.ReferenceIdeal.main_call65_v1) (y := Cert.ReferenceIdeal.main_v1450) (f := (select : (⟨Cert.ReferenceIdeal.S2048x2048, .i1⟩ : BufTy).Contents (Elt Ideal) → (⟨Cert.ReferenceIdeal.S2048x2048, .f32⟩ : BufTy).Contents (Elt Ideal) → (⟨Cert.ReferenceIdeal.S2048x2048, .f32⟩ : BufTy).Contents (Elt Ideal) → (⟨Cert.ReferenceIdeal.S2048x2048, .f32⟩ : BufTy).Contents (Elt Ideal))) (hc := ⟨by decide, rfl⟩) (ha := ⟨by decide, rfl⟩) (hb := ⟨by decide, rfl⟩) (hy := ⟨by decide, rfl⟩)
  rw [hk, hr, ← c_main_v316__main_v1447 hag hel, ← c_main_v318__main_v1449 hag hel, ← c_main_call8_v1__main_call65_v1 hag hel]

theorem c_main_cst_58__main_cst_310 : StableHlo.after Cert.KernelIdeal.Hand.KOps (Cert.KernelIdeal.Hand.Wl (F := Ideal) m ρ c) (Proc.devRef .tc Cert.KernelIdeal.main_cst_58) = StableHlo.after (Cert.ReferenceIdeal.Hand.ops (F := Ideal)) (StableHlo.launchContents m' c) (Proc.devRef .tc Cert.ReferenceIdeal.main_cst_310) := by
  have hk := StableHlo.Ascending.eq_nullary Cert.KernelIdeal.Hand.KOps_asc (Cert.KernelIdeal.Hand.Wl m ρ c) (Cert.KernelIdeal.Hand.mem_KOps_st7 (Cert.KernelIdeal.Hand.mem_st_7_16 (List.getElem_mem (l := Cert.KernelIdeal.GenP.hostOps7_16 (F := Ideal)) (n := 0) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part29 (List.getElem_mem (l := Cert.ReferenceIdeal.Hand.ops_part29 (F := Ideal)) (n := 31) (by decide))) rfl (hy := ⟨by decide, rfl⟩)
  rw [hk, hr]

theorem c_main_v320__main_v1451 : StableHlo.after Cert.KernelIdeal.Hand.KOps (Cert.KernelIdeal.Hand.Wl (F := Ideal) m ρ c) (Proc.devRef .tc Cert.KernelIdeal.main_v320) = StableHlo.after (Cert.ReferenceIdeal.Hand.ops (F := Ideal)) (StableHlo.launchContents m' c) (Proc.devRef .tc Cert.ReferenceIdeal.main_v1451) := by
  have hk := StableHlo.Ascending.eq_binary Cert.KernelIdeal.Hand.KOps_asc (Cert.KernelIdeal.Hand.Wl m ρ c) (Cert.KernelIdeal.Hand.mem_KOps_st7 (Cert.KernelIdeal.Hand.mem_st_7_16 (List.getElem_mem (l := Cert.KernelIdeal.GenP.hostOps7_16 (F := Ideal)) (n := 1) (by decide)))) rfl rfl rfl (by decide) (by decide) (a := Cert.KernelIdeal.main_v319) (b := Cert.KernelIdeal.main_cst_58) (y := Cert.KernelIdeal.main_v320) (f := open Cert.KernelIdeal Cert.KernelIdeal.Gen in (fun x v => Host.reduce (FloatOps.maximumf (F := Ideal)) x v reducesTo_S2048x2048_S2048_d1 h_S_)) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part29 (List.getElem_mem (l := Cert.ReferenceIdeal.Hand.ops_part29 (F := Ideal)) (n := 32) (by decide))) rfl rfl rfl (by decide) (by decide) (a := Cert.ReferenceIdeal.main_v1450) (b := Cert.ReferenceIdeal.main_cst_310) (y := Cert.ReferenceIdeal.main_v1451) (f := open Cert.ReferenceIdeal Cert.ReferenceIdeal.Gen in (fun x v => Host.reduce (FloatOps.maximumf (F := Ideal)) x v reducesTo_S2048x2048_S2048_d1 h_S_)) (ha := ⟨by decide, rfl⟩) (hb := ⟨by decide, rfl⟩) (hy := ⟨by decide, rfl⟩)
  rw [hk, hr, ← c_main_v319__main_v1450 hag hel, ← c_main_cst_58__main_cst_310 hag hel]

theorem c_main_cst_59__main_cst_311 : StableHlo.after Cert.KernelIdeal.Hand.KOps (Cert.KernelIdeal.Hand.Wl (F := Ideal) m ρ c) (Proc.devRef .tc Cert.KernelIdeal.main_cst_59) = StableHlo.after (Cert.ReferenceIdeal.Hand.ops (F := Ideal)) (StableHlo.launchContents m' c) (Proc.devRef .tc Cert.ReferenceIdeal.main_cst_311) := by
  have hk := StableHlo.Ascending.eq_nullary Cert.KernelIdeal.Hand.KOps_asc (Cert.KernelIdeal.Hand.Wl m ρ c) (Cert.KernelIdeal.Hand.mem_KOps_st7 (Cert.KernelIdeal.Hand.mem_st_7_16 (List.getElem_mem (l := Cert.KernelIdeal.GenP.hostOps7_16 (F := Ideal)) (n := 2) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part29 (List.getElem_mem (l := Cert.ReferenceIdeal.Hand.ops_part29 (F := Ideal)) (n := 33) (by decide))) rfl (hy := ⟨by decide, rfl⟩)
  rw [hk, hr]

theorem c_main_v321__main_v1452 : StableHlo.after Cert.KernelIdeal.Hand.KOps (Cert.KernelIdeal.Hand.Wl (F := Ideal) m ρ c) (Proc.devRef .tc Cert.KernelIdeal.main_v321) = StableHlo.after (Cert.ReferenceIdeal.Hand.ops (F := Ideal)) (StableHlo.launchContents m' c) (Proc.devRef .tc Cert.ReferenceIdeal.main_v1452) := by
  have hk := StableHlo.Ascending.eq_unary Cert.KernelIdeal.Hand.KOps_asc (Cert.KernelIdeal.Hand.Wl m ρ c) (Cert.KernelIdeal.Hand.mem_KOps_st7 (Cert.KernelIdeal.Hand.mem_st_7_16 (List.getElem_mem (l := Cert.KernelIdeal.GenP.hostOps7_16 (F := Ideal)) (n := 3) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part29 (List.getElem_mem (l := Cert.ReferenceIdeal.Hand.ops_part29 (F := Ideal)) (n := 34) (by decide))) rfl rfl (by decide) (hx := ⟨by decide, rfl⟩) (hy := ⟨by decide, rfl⟩)
  rw [hk, hr, ← c_main_cst_59__main_cst_311 hag hel]

theorem c_main_v322__main_v1453 : StableHlo.after Cert.KernelIdeal.Hand.KOps (Cert.KernelIdeal.Hand.Wl (F := Ideal) m ρ c) (Proc.devRef .tc Cert.KernelIdeal.main_v322) = StableHlo.after (Cert.ReferenceIdeal.Hand.ops (F := Ideal)) (StableHlo.launchContents m' c) (Proc.devRef .tc Cert.ReferenceIdeal.main_v1453) := by
  have hk := StableHlo.Ascending.eq_binary Cert.KernelIdeal.Hand.KOps_asc (Cert.KernelIdeal.Hand.Wl m ρ c) (Cert.KernelIdeal.Hand.mem_KOps_st7 (Cert.KernelIdeal.Hand.mem_st_7_16 (List.getElem_mem (l := Cert.KernelIdeal.GenP.hostOps7_16 (F := Ideal)) (n := 4) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part29 (List.getElem_mem (l := Cert.ReferenceIdeal.Hand.ops_part29 (F := Ideal)) (n := 35) (by decide))) rfl rfl rfl (by decide) (by decide) (ha := ⟨by decide, rfl⟩) (hb := ⟨by decide, rfl⟩) (hy := ⟨by decide, rfl⟩)
  rw [hk, hr, ← c_main_v321__main_v1452 hag hel, ← c_main_v320__main_v1451 hag hel]

theorem c_main_v323__main_v1454 : StableHlo.after Cert.KernelIdeal.Hand.KOps (Cert.KernelIdeal.Hand.Wl (F := Ideal) m ρ c) (Proc.devRef .tc Cert.KernelIdeal.main_v323) = StableHlo.after (Cert.ReferenceIdeal.Hand.ops (F := Ideal)) (StableHlo.launchContents m' c) (Proc.devRef .tc Cert.ReferenceIdeal.main_v1454) := by
  have hk := StableHlo.Ascending.eq_unary Cert.KernelIdeal.Hand.KOps_asc (Cert.KernelIdeal.Hand.Wl m ρ c) (Cert.KernelIdeal.Hand.mem_KOps_st7 (Cert.KernelIdeal.Hand.mem_st_7_16 (List.getElem_mem (l := Cert.KernelIdeal.GenP.hostOps7_16 (F := Ideal)) (n := 5) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part29 (List.getElem_mem (l := Cert.ReferenceIdeal.Hand.ops_part29 (F := Ideal)) (n := 36) (by decide))) rfl rfl (by decide) (hx := ⟨by decide, rfl⟩) (hy := ⟨by decide, rfl⟩)
  rw [hk, hr, ← c_main_v322__main_v1453 hag hel]

theorem c_main_v324__main_v1455 : StableHlo.after Cert.KernelIdeal.Hand.KOps (Cert.KernelIdeal.Hand.Wl (F := Ideal) m ρ c) (Proc.devRef .tc Cert.KernelIdeal.main_v324) = StableHlo.after (Cert.ReferenceIdeal.Hand.ops (F := Ideal)) (StableHlo.launchContents m' c) (Proc.devRef .tc Cert.ReferenceIdeal.main_v1455) := by
  have hk := StableHlo.Ascending.eq_unary Cert.KernelIdeal.Hand.KOps_asc (Cert.KernelIdeal.Hand.Wl m ρ c) (Cert.KernelIdeal.Hand.mem_KOps_st7 (Cert.KernelIdeal.Hand.mem_st_7_16 (List.getElem_mem (l := Cert.KernelIdeal.GenP.hostOps7_16 (F := Ideal)) (n := 6) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part29 (List.getElem_mem (l := Cert.ReferenceIdeal.Hand.ops_part29 (F := Ideal)) (n := 37) (by decide))) rfl rfl (by decide) (hx := ⟨by decide, rfl⟩) (hy := ⟨by decide, rfl⟩)
  rw [hk, hr, ← c_main_v323__main_v1454 hag hel]

theorem c_main_v325__main_v1456 : StableHlo.after Cert.KernelIdeal.Hand.KOps (Cert.KernelIdeal.Hand.Wl (F := Ideal) m ρ c) (Proc.devRef .tc Cert.KernelIdeal.main_v325) = StableHlo.after (Cert.ReferenceIdeal.Hand.ops (F := Ideal)) (StableHlo.launchContents m' c) (Proc.devRef .tc Cert.ReferenceIdeal.main_v1456) := by
  have hk := StableHlo.Ascending.eq_binary Cert.KernelIdeal.Hand.KOps_asc (Cert.KernelIdeal.Hand.Wl m ρ c) (Cert.KernelIdeal.Hand.mem_KOps_st7 (Cert.KernelIdeal.Hand.mem_st_7_16 (List.getElem_mem (l := Cert.KernelIdeal.GenP.hostOps7_16 (F := Ideal)) (n := 7) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part29 (List.getElem_mem (l := Cert.ReferenceIdeal.Hand.ops_part29 (F := Ideal)) (n := 38) (by decide))) rfl rfl rfl (by decide) (by decide) (ha := ⟨by decide, rfl⟩) (hb := ⟨by decide, rfl⟩) (hy := ⟨by decide, rfl⟩)
  rw [hk, hr, ← c_main_v319__main_v1450 hag hel, ← c_main_v324__main_v1455 hag hel]

theorem c_main_v326__main_v1457 : StableHlo.after Cert.KernelIdeal.Hand.KOps (Cert.KernelIdeal.Hand.Wl (F := Ideal) m ρ c) (Proc.devRef .tc Cert.KernelIdeal.main_v326) = StableHlo.after (Cert.ReferenceIdeal.Hand.ops (F := Ideal)) (StableHlo.launchContents m' c) (Proc.devRef .tc Cert.ReferenceIdeal.main_v1457) := by
  have hk := StableHlo.Ascending.eq_unary Cert.KernelIdeal.Hand.KOps_asc (Cert.KernelIdeal.Hand.Wl m ρ c) (Cert.KernelIdeal.Hand.mem_KOps_st7 (Cert.KernelIdeal.Hand.mem_st_7_16 (List.getElem_mem (l := Cert.KernelIdeal.GenP.hostOps7_16 (F := Ideal)) (n := 8) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part29 (List.getElem_mem (l := Cert.ReferenceIdeal.Hand.ops_part29 (F := Ideal)) (n := 39) (by decide))) rfl rfl (by decide) (hx := ⟨by decide, rfl⟩) (hy := ⟨by decide, rfl⟩)
  rw [hk, hr, ← c_main_v325__main_v1456 hag hel]

theorem c_main_cst_60__main_cst_312 : StableHlo.after Cert.KernelIdeal.Hand.KOps (Cert.KernelIdeal.Hand.Wl (F := Ideal) m ρ c) (Proc.devRef .tc Cert.KernelIdeal.main_cst_60) = StableHlo.after (Cert.ReferenceIdeal.Hand.ops (F := Ideal)) (StableHlo.launchContents m' c) (Proc.devRef .tc Cert.ReferenceIdeal.main_cst_312) := by
  have hk := StableHlo.Ascending.eq_nullary Cert.KernelIdeal.Hand.KOps_asc (Cert.KernelIdeal.Hand.Wl m ρ c) (Cert.KernelIdeal.Hand.mem_KOps_st7 (Cert.KernelIdeal.Hand.mem_st_7_16 (List.getElem_mem (l := Cert.KernelIdeal.GenP.hostOps7_16 (F := Ideal)) (n := 9) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part29 (List.getElem_mem (l := Cert.ReferenceIdeal.Hand.ops_part29 (F := Ideal)) (n := 40) (by decide))) rfl (hy := ⟨by decide, rfl⟩)
  rw [hk, hr]

theorem c_main_v327__main_v1458 : StableHlo.after Cert.KernelIdeal.Hand.KOps (Cert.KernelIdeal.Hand.Wl (F := Ideal) m ρ c) (Proc.devRef .tc Cert.KernelIdeal.main_v327) = StableHlo.after (Cert.ReferenceIdeal.Hand.ops (F := Ideal)) (StableHlo.launchContents m' c) (Proc.devRef .tc Cert.ReferenceIdeal.main_v1458) := by
  have hk := StableHlo.Ascending.eq_binary Cert.KernelIdeal.Hand.KOps_asc (Cert.KernelIdeal.Hand.Wl m ρ c) (Cert.KernelIdeal.Hand.mem_KOps_st7 (Cert.KernelIdeal.Hand.mem_st_7_16 (List.getElem_mem (l := Cert.KernelIdeal.GenP.hostOps7_16 (F := Ideal)) (n := 10) (by decide)))) rfl rfl rfl (by decide) (by decide) (a := Cert.KernelIdeal.main_v326) (b := Cert.KernelIdeal.main_cst_60) (y := Cert.KernelIdeal.main_v327) (f := open Cert.KernelIdeal Cert.KernelIdeal.Gen in (fun x v => Host.reduceAdd (F := Ideal) x v reducesTo_S2048x2048_S2048_d1 h_S_)) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part29 (List.getElem_mem (l := Cert.ReferenceIdeal.Hand.ops_part29 (F := Ideal)) (n := 41) (by decide))) rfl rfl rfl (by decide) (by decide) (a := Cert.ReferenceIdeal.main_v1457) (b := Cert.ReferenceIdeal.main_cst_312) (y := Cert.ReferenceIdeal.main_v1458) (f := open Cert.ReferenceIdeal Cert.ReferenceIdeal.Gen in (fun x v => Host.reduceAdd (F := Ideal) x v reducesTo_S2048x2048_S2048_d1 h_S_)) (ha := ⟨by decide, rfl⟩) (hb := ⟨by decide, rfl⟩) (hy := ⟨by decide, rfl⟩)
  rw [hk, hr, ← c_main_v326__main_v1457 hag hel, ← c_main_cst_60__main_cst_312 hag hel]

theorem c_main_v328__main_v1459 : StableHlo.after Cert.KernelIdeal.Hand.KOps (Cert.KernelIdeal.Hand.Wl (F := Ideal) m ρ c) (Proc.devRef .tc Cert.KernelIdeal.main_v328) = StableHlo.after (Cert.ReferenceIdeal.Hand.ops (F := Ideal)) (StableHlo.launchContents m' c) (Proc.devRef .tc Cert.ReferenceIdeal.main_v1459) := by
  have hk := StableHlo.Ascending.eq_unary Cert.KernelIdeal.Hand.KOps_asc (Cert.KernelIdeal.Hand.Wl m ρ c) (Cert.KernelIdeal.Hand.mem_KOps_st7 (Cert.KernelIdeal.Hand.mem_st_7_16 (List.getElem_mem (l := Cert.KernelIdeal.GenP.hostOps7_16 (F := Ideal)) (n := 11) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part29 (List.getElem_mem (l := Cert.ReferenceIdeal.Hand.ops_part29 (F := Ideal)) (n := 42) (by decide))) rfl rfl (by decide) (hx := ⟨by decide, rfl⟩) (hy := ⟨by decide, rfl⟩)
  rw [hk, hr, ← c_main_v327__main_v1458 hag hel]

theorem c_main_v329__main_v1460 : StableHlo.after Cert.KernelIdeal.Hand.KOps (Cert.KernelIdeal.Hand.Wl (F := Ideal) m ρ c) (Proc.devRef .tc Cert.KernelIdeal.main_v329) = StableHlo.after (Cert.ReferenceIdeal.Hand.ops (F := Ideal)) (StableHlo.launchContents m' c) (Proc.devRef .tc Cert.ReferenceIdeal.main_v1460) := by
  have hk := StableHlo.Ascending.eq_unary Cert.KernelIdeal.Hand.KOps_asc (Cert.KernelIdeal.Hand.Wl m ρ c) (Cert.KernelIdeal.Hand.mem_KOps_st7 (Cert.KernelIdeal.Hand.mem_st_7_16 (List.getElem_mem (l := Cert.KernelIdeal.GenP.hostOps7_16 (F := Ideal)) (n := 12) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part29 (List.getElem_mem (l := Cert.ReferenceIdeal.Hand.ops_part29 (F := Ideal)) (n := 43) (by decide))) rfl rfl (by decide) (hx := ⟨by decide, rfl⟩) (hy := ⟨by decide, rfl⟩)
  rw [hk, hr, ← c_main_v328__main_v1459 hag hel]

theorem c_main_v330__main_v1461 : StableHlo.after Cert.KernelIdeal.Hand.KOps (Cert.KernelIdeal.Hand.Wl (F := Ideal) m ρ c) (Proc.devRef .tc Cert.KernelIdeal.main_v330) = StableHlo.after (Cert.ReferenceIdeal.Hand.ops (F := Ideal)) (StableHlo.launchContents m' c) (Proc.devRef .tc Cert.ReferenceIdeal.main_v1461) := by
  have hk := StableHlo.Ascending.eq_binary Cert.KernelIdeal.Hand.KOps_asc (Cert.KernelIdeal.Hand.Wl m ρ c) (Cert.KernelIdeal.Hand.mem_KOps_st7 (Cert.KernelIdeal.Hand.mem_st_7_16 (List.getElem_mem (l := Cert.KernelIdeal.GenP.hostOps7_16 (F := Ideal)) (n := 13) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part29 (List.getElem_mem (l := Cert.ReferenceIdeal.Hand.ops_part29 (F := Ideal)) (n := 44) (by decide))) rfl rfl rfl (by decide) (by decide) (ha := ⟨by decide, rfl⟩) (hb := ⟨by decide, rfl⟩) (hy := ⟨by decide, rfl⟩)
  rw [hk, hr, ← c_main_v326__main_v1457 hag hel, ← c_main_v329__main_v1460 hag hel]

theorem c_main_v331__main_v1462 : StableHlo.after Cert.KernelIdeal.Hand.KOps (Cert.KernelIdeal.Hand.Wl (F := Ideal) m ρ c) (Proc.devRef .tc Cert.KernelIdeal.main_v331) = StableHlo.after (Cert.ReferenceIdeal.Hand.ops (F := Ideal)) (StableHlo.launchContents m' c) (Proc.devRef .tc Cert.ReferenceIdeal.main_v1462) := by
  have hk := StableHlo.Ascending.eq_unary Cert.KernelIdeal.Hand.KOps_asc (Cert.KernelIdeal.Hand.Wl m ρ c) (Cert.KernelIdeal.Hand.mem_KOps_st7 (Cert.KernelIdeal.Hand.mem_st_7_16 (List.getElem_mem (l := Cert.KernelIdeal.GenP.hostOps7_16 (F := Ideal)) (n := 14) (by decide)))) rfl rfl (by decide) (x := Cert.KernelIdeal.main_v330) (y := Cert.KernelIdeal.main_v331) (f := open Cert.KernelIdeal Cert.KernelIdeal.Gen in (transpose S2048x2048 [1, 0] · transposes_S2048x2048_S2048x2048_1_0)) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part29 (List.getElem_mem (l := Cert.ReferenceIdeal.Hand.ops_part29 (F := Ideal)) (n := 45) (by decide))) rfl rfl (by decide) (x := Cert.ReferenceIdeal.main_v1461) (y := Cert.ReferenceIdeal.main_v1462) (f := open Cert.ReferenceIdeal Cert.ReferenceIdeal.Gen in (transpose S2048x2048 [1, 0] · transposes_S2048x2048_S2048x2048_1_0)) (hx := ⟨by decide, rfl⟩) (hy := ⟨by decide, rfl⟩)
  rw [hk, hr, ← c_main_v330__main_v1461 hag hel]

theorem c_main_v332__main_v1463 : StableHlo.after Cert.KernelIdeal.Hand.KOps (Cert.KernelIdeal.Hand.Wl (F := Ideal) m ρ c) (Proc.devRef .tc Cert.KernelIdeal.main_v332) = StableHlo.after (Cert.ReferenceIdeal.Hand.ops (F := Ideal)) (StableHlo.launchContents m' c) (Proc.devRef .tc Cert.ReferenceIdeal.main_v1463) := by
  have hk := StableHlo.Ascending.eq_binary Cert.KernelIdeal.Hand.KOps_asc (Cert.KernelIdeal.Hand.Wl m ρ c) (Cert.KernelIdeal.Hand.mem_KOps_st7 (Cert.KernelIdeal.Hand.mem_st_7_16 (List.getElem_mem (l := Cert.KernelIdeal.GenP.hostOps7_16 (F := Ideal)) (n := 15) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part29 (List.getElem_mem (l := Cert.ReferenceIdeal.Hand.ops_part29 (F := Ideal)) (n := 46) (by decide))) rfl rfl rfl (by decide) (by decide) (ha := ⟨by decide, rfl⟩) (hb := ⟨by decide, rfl⟩) (hy := ⟨by decide, rfl⟩)
  rw [hk, hr, ← c_main_v331__main_v1462 hag hel, ← c_main_v292__main_v1423 hag hel]
  rfl

theorem c_main_call9_cst__main_call66_cst : StableHlo.after Cert.KernelIdeal.Hand.KOps (Cert.KernelIdeal.Hand.Wl (F := Ideal) m ρ c) (Proc.devRef .tc Cert.KernelIdeal.main_call9_cst) = StableHlo.after (Cert.ReferenceIdeal.Hand.ops (F := Ideal)) (StableHlo.launchContents m' c) (Proc.devRef .tc Cert.ReferenceIdeal.main_call66_cst) := by
  have hk := StableHlo.Ascending.eq_nullary Cert.KernelIdeal.Hand.KOps_asc (Cert.KernelIdeal.Hand.Wl m ρ c) (Cert.KernelIdeal.Hand.mem_KOps_st7 (Cert.KernelIdeal.Hand.mem_st_7_17 (List.getElem_mem (l := Cert.KernelIdeal.GenP.hostOps7_17 (F := Ideal)) (n := 0) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part29 (List.getElem_mem (l := Cert.ReferenceIdeal.Hand.ops_part29 (F := Ideal)) (n := 47) (by decide))) rfl (hy := ⟨by decide, rfl⟩)
  rw [hk, hr]

theorem c_main_call9_v0__main_call66_v0 : StableHlo.after Cert.KernelIdeal.Hand.KOps (Cert.KernelIdeal.Hand.Wl (F := Ideal) m ρ c) (Proc.devRef .tc Cert.KernelIdeal.main_call9_v0) = StableHlo.after (Cert.ReferenceIdeal.Hand.ops (F := Ideal)) (StableHlo.launchContents m' c) (Proc.devRef .tc Cert.ReferenceIdeal.main_call66_v0) := by
  have hk := StableHlo.Ascending.eq_unary Cert.KernelIdeal.Hand.KOps_asc (Cert.KernelIdeal.Hand.Wl m ρ c) (Cert.KernelIdeal.Hand.mem_KOps_st7 (Cert.KernelIdeal.Hand.mem_st_7_17 (List.getElem_mem (l := Cert.KernelIdeal.GenP.hostOps7_17 (F := Ideal)) (n := 1) (by decide)))) rfl rfl (by decide) (x := Cert.KernelIdeal.main_call9_cst) (y := Cert.KernelIdeal.main_call9_v0) (f := open Cert.KernelIdeal Cert.KernelIdeal.Gen in (broadcastInDim S2048x8 ![] bcast_S_S2048x8)) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part29 (List.getElem_mem (l := Cert.ReferenceIdeal.Hand.ops_part29 (F := Ideal)) (n := 48) (by decide))) rfl rfl (by decide) (x := Cert.ReferenceIdeal.main_call66_cst) (y := Cert.ReferenceIdeal.main_call66_v0) (f := open Cert.ReferenceIdeal Cert.ReferenceIdeal.Gen in (broadcastInDim S2048x8 ![] bcast_S_S2048x8)) (hx := ⟨by decide, rfl⟩) (hy := ⟨by decide, rfl⟩)
  rw [hk, hr, ← c_main_call9_cst__main_call66_cst hag hel]

theorem c_main_call9_v1__main_call66_v1 : StableHlo.after Cert.KernelIdeal.Hand.KOps (Cert.KernelIdeal.Hand.Wl (F := Ideal) m ρ c) (Proc.devRef .tc Cert.KernelIdeal.main_call9_v1) = StableHlo.after (Cert.ReferenceIdeal.Hand.ops (F := Ideal)) (StableHlo.launchContents m' c) (Proc.devRef .tc Cert.ReferenceIdeal.main_call66_v1) := by
  have hk := StableHlo.Ascending.eq_binary Cert.KernelIdeal.Hand.KOps_asc (Cert.KernelIdeal.Hand.Wl m ρ c) (Cert.KernelIdeal.Hand.mem_KOps_st7 (Cert.KernelIdeal.Hand.mem_st_7_17 (List.getElem_mem (l := Cert.KernelIdeal.GenP.hostOps7_17 (F := Ideal)) (n := 2) (by decide)))) rfl rfl rfl (by decide) (by decide) (a := Cert.KernelIdeal.main_v332) (b := Cert.KernelIdeal.main_call9_v0) (y := Cert.KernelIdeal.main_call9_v1) (f := open Cert.KernelIdeal Cert.KernelIdeal.Gen in (cmpf (F := Ideal) .ogt)) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part29 (List.getElem_mem (l := Cert.ReferenceIdeal.Hand.ops_part29 (F := Ideal)) (n := 49) (by decide))) rfl rfl rfl (by decide) (by decide) (a := Cert.ReferenceIdeal.main_v1463) (b := Cert.ReferenceIdeal.main_call66_v0) (y := Cert.ReferenceIdeal.main_call66_v1) (f := open Cert.ReferenceIdeal Cert.ReferenceIdeal.Gen in (cmpf (F := Ideal) .ogt)) (ha := ⟨by decide, rfl⟩) (hb := ⟨by decide, rfl⟩) (hy := ⟨by decide, rfl⟩)
  rw [hk, hr, ← c_main_v332__main_v1463 hag hel, ← c_main_call9_v0__main_call66_v0 hag hel]

theorem c_main_call9_cst_0__main_call66_cst_0 : StableHlo.after Cert.KernelIdeal.Hand.KOps (Cert.KernelIdeal.Hand.Wl (F := Ideal) m ρ c) (Proc.devRef .tc Cert.KernelIdeal.main_call9_cst_0) = StableHlo.after (Cert.ReferenceIdeal.Hand.ops (F := Ideal)) (StableHlo.launchContents m' c) (Proc.devRef .tc Cert.ReferenceIdeal.main_call66_cst_0) := by
  have hk := StableHlo.Ascending.eq_nullary Cert.KernelIdeal.Hand.KOps_asc (Cert.KernelIdeal.Hand.Wl m ρ c) (Cert.KernelIdeal.Hand.mem_KOps_st7 (Cert.KernelIdeal.Hand.mem_st_7_17 (List.getElem_mem (l := Cert.KernelIdeal.GenP.hostOps7_17 (F := Ideal)) (n := 3) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part29 (List.getElem_mem (l := Cert.ReferenceIdeal.Hand.ops_part29 (F := Ideal)) (n := 50) (by decide))) rfl (hy := ⟨by decide, rfl⟩)
  rw [hk, hr]

theorem c_main_call9_v2__main_call66_v2 : StableHlo.after Cert.KernelIdeal.Hand.KOps (Cert.KernelIdeal.Hand.Wl (F := Ideal) m ρ c) (Proc.devRef .tc Cert.KernelIdeal.main_call9_v2) = StableHlo.after (Cert.ReferenceIdeal.Hand.ops (F := Ideal)) (StableHlo.launchContents m' c) (Proc.devRef .tc Cert.ReferenceIdeal.main_call66_v2) := by
  have hk := StableHlo.Ascending.eq_unary Cert.KernelIdeal.Hand.KOps_asc (Cert.KernelIdeal.Hand.Wl m ρ c) (Cert.KernelIdeal.Hand.mem_KOps_st7 (Cert.KernelIdeal.Hand.mem_st_7_17 (List.getElem_mem (l := Cert.KernelIdeal.GenP.hostOps7_17 (F := Ideal)) (n := 4) (by decide)))) rfl rfl (by decide) (x := Cert.KernelIdeal.main_call9_cst_0) (y := Cert.KernelIdeal.main_call9_v2) (f := open Cert.KernelIdeal Cert.KernelIdeal.Gen in (broadcastInDim S2048x8 ![] bcast_S_S2048x8)) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part29 (List.getElem_mem (l := Cert.ReferenceIdeal.Hand.ops_part29 (F := Ideal)) (n := 51) (by decide))) rfl rfl (by decide) (x := Cert.ReferenceIdeal.main_call66_cst_0) (y := Cert.ReferenceIdeal.main_call66_v2) (f := open Cert.ReferenceIdeal Cert.ReferenceIdeal.Gen in (broadcastInDim S2048x8 ![] bcast_S_S2048x8)) (hx := ⟨by decide, rfl⟩) (hy := ⟨by decide, rfl⟩)
  rw [hk, hr, ← c_main_call9_cst_0__main_call66_cst_0 hag hel]

end Cert.Value

end
-- ==== Proof.Val.C010.lean ====
/- Steps C010 of the value claim's chain: for each listed pair, the kernel program's buffer and its reference twin hold equal contents at the two programs' final
   valuations — the two operations are the same function (read off the two operation lists) of operands already paired. A table; written by: bun scratch/corr.js 60 -/
import proofs.«146970_j35948876268088_1_alg».proof.Proof.Val.Seed
import proofs.«146970_j35948876268088_1_alg».proof.Proof.KI.Dots
import Mathlib.Tactic.FinCases
import proofs.«146970_j35948876268088_1_alg».proof.Proof.Val.C000
import proofs.«146970_j35948876268088_1_alg».proof.Proof.Val.C001
import proofs.«146970_j35948876268088_1_alg».proof.Proof.Val.C006
import proofs.«146970_j35948876268088_1_alg».proof.Proof.Val.C008
import proofs.«146970_j35948876268088_1_alg».proof.Proof.Val.C009

set_option maxRecDepth 16384

noncomputable section

namespace Cert.Value

open Idealize.ShloMosaic Idealize.ShloMosaic.TcCoe Idealize.SL.Sem

variable {m : (ℓ : Loc Cert.KernelIdeal.nD Cert.KernelIdeal.τ Cert.KernelIdeal.sig) → Buf (Elt Ideal) ℓ} {ρ : Dev Cert.KernelIdeal.nD → PrngReg}
  {m' : (ℓ : Loc Cert.ReferenceIdeal.nD Cert.ReferenceIdeal.τ Cert.ReferenceIdeal.sig) → Buf (Elt Ideal) ℓ} {c : Dev Cert.KernelIdeal.nD} (hag : Agree m m') (hel : Els m' c)
include hag hel

theorem c_main_call9_v3__main_call66_v3 : StableHlo.after Cert.KernelIdeal.Hand.KOps (Cert.KernelIdeal.Hand.Wl (F := Ideal) m ρ c) (Proc.devRef .tc Cert.KernelIdeal.main_call9_v3) = StableHlo.after (Cert.ReferenceIdeal.Hand.ops (F := Ideal)) (StableHlo.launchContents m' c) (Proc.devRef .tc Cert.ReferenceIdeal.main_call66_v3) := by
  have hk := StableHlo.Ascending.eq_binary Cert.KernelIdeal.Hand.KOps_asc (Cert.KernelIdeal.Hand.Wl m ρ c) (Cert.KernelIdeal.Hand.mem_KOps_st7 (Cert.KernelIdeal.Hand.mem_st_7_17 (List.getElem_mem (l := Cert.KernelIdeal.GenP.hostOps7_17 (F := Ideal)) (n := 5) (by decide)))) rfl rfl rfl (by decide) (by decide) (a := Cert.KernelIdeal.main_v332) (b := Cert.KernelIdeal.main_call9_v2) (y := Cert.KernelIdeal.main_call9_v3) (f := open Cert.KernelIdeal Cert.KernelIdeal.Gen in (cmpf (F := Ideal) .ogt)) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part29 (List.getElem_mem (l := Cert.ReferenceIdeal.Hand.ops_part29 (F := Ideal)) (n := 52) (by decide))) rfl rfl rfl (by decide) (by decide) (a := Cert.ReferenceIdeal.main_v1463) (b := Cert.ReferenceIdeal.main_call66_v2) (y := Cert.ReferenceIdeal.main_call66_v3) (f := open Cert.ReferenceIdeal Cert.ReferenceIdeal.Gen in (cmpf (F := Ideal) .ogt)) (ha := ⟨by decide, rfl⟩) (hb := ⟨by decide, rfl⟩) (hy := ⟨by decide, rfl⟩)
  rw [hk, hr, ← c_main_v332__main_v1463 hag hel, ← c_main_call9_v2__main_call66_v2 hag hel]

theorem c_main_call9_cst_1__main_call66_cst_1 : StableHlo.after Cert.KernelIdeal.Hand.KOps (Cert.KernelIdeal.Hand.Wl (F := Ideal) m ρ c) (Proc.devRef .tc Cert.KernelIdeal.main_call9_cst_1) = StableHlo.after (Cert.ReferenceIdeal.Hand.ops (F := Ideal)) (StableHlo.launchContents m' c) (Proc.devRef .tc Cert.ReferenceIdeal.main_call66_cst_1) := by
  have hk := StableHlo.Ascending.eq_nullary Cert.KernelIdeal.Hand.KOps_asc (Cert.KernelIdeal.Hand.Wl m ρ c) (Cert.KernelIdeal.Hand.mem_KOps_st7 (Cert.KernelIdeal.Hand.mem_st_7_17 (List.getElem_mem (l := Cert.KernelIdeal.GenP.hostOps7_17 (F := Ideal)) (n := 6) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part29 (List.getElem_mem (l := Cert.ReferenceIdeal.Hand.ops_part29 (F := Ideal)) (n := 53) (by decide))) rfl (hy := ⟨by decide, rfl⟩)
  rw [hk, hr]

theorem c_main_call9_call0_v0__main_call66_call0_v0 : StableHlo.after Cert.KernelIdeal.Hand.KOps (Cert.KernelIdeal.Hand.Wl (F := Ideal) m ρ c) (Proc.devRef .tc Cert.KernelIdeal.main_call9_call0_v0) = StableHlo.after (Cert.ReferenceIdeal.Hand.ops (F := Ideal)) (StableHlo.launchContents m' c) (Proc.devRef .tc Cert.ReferenceIdeal.main_call66_call0_v0) := by
  have hk := StableHlo.Ascending.eq_unary Cert.KernelIdeal.Hand.KOps_asc (Cert.KernelIdeal.Hand.Wl m ρ c) (Cert.KernelIdeal.Hand.mem_KOps_st7 (Cert.KernelIdeal.Hand.mem_st_7_17 (List.getElem_mem (l := Cert.KernelIdeal.GenP.hostOps7_17 (F := Ideal)) (n := 7) (by decide)))) rfl rfl (by decide) (x := Cert.KernelIdeal.main_call9_cst_1) (y := Cert.KernelIdeal.main_call9_call0_v0) (f := open Cert.KernelIdeal Cert.KernelIdeal.Gen in id) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part29 (List.getElem_mem (l := Cert.ReferenceIdeal.Hand.ops_part29 (F := Ideal)) (n := 54) (by decide))) rfl rfl (by decide) (x := Cert.ReferenceIdeal.main_call66_cst_1) (y := Cert.ReferenceIdeal.main_call66_call0_v0) (f := open Cert.ReferenceIdeal Cert.ReferenceIdeal.Gen in id) (hx := ⟨by decide, rfl⟩) (hy := ⟨by decide, rfl⟩)
  rw [hk, hr, ← c_main_call9_cst_1__main_call66_cst_1 hag hel]

theorem c_main_call9_call0_v1__main_call66_call0_v1 : StableHlo.after Cert.KernelIdeal.Hand.KOps (Cert.KernelIdeal.Hand.Wl (F := Ideal) m ρ c) (Proc.devRef .tc Cert.KernelIdeal.main_call9_call0_v1) = StableHlo.after (Cert.ReferenceIdeal.Hand.ops (F := Ideal)) (StableHlo.launchContents m' c) (Proc.devRef .tc Cert.ReferenceIdeal.main_call66_call0_v1) := by
  have hk := StableHlo.Ascending.eq_unary Cert.KernelIdeal.Hand.KOps_asc (Cert.KernelIdeal.Hand.Wl m ρ c) (Cert.KernelIdeal.Hand.mem_KOps_st7 (Cert.KernelIdeal.Hand.mem_st_7_17 (List.getElem_mem (l := Cert.KernelIdeal.GenP.hostOps7_17 (F := Ideal)) (n := 8) (by decide)))) rfl rfl (by decide) (x := Cert.KernelIdeal.main_call9_call0_v0) (y := Cert.KernelIdeal.main_call9_call0_v1) (f := open Cert.KernelIdeal Cert.KernelIdeal.Gen in (broadcastInDim S2048x8 ![] bcast_S_S2048x8)) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part29 (List.getElem_mem (l := Cert.ReferenceIdeal.Hand.ops_part29 (F := Ideal)) (n := 55) (by decide))) rfl rfl (by decide) (x := Cert.ReferenceIdeal.main_call66_call0_v0) (y := Cert.ReferenceIdeal.main_call66_call0_v1) (f := open Cert.ReferenceIdeal Cert.ReferenceIdeal.Gen in (broadcastInDim S2048x8 ![] bcast_S_S2048x8)) (hx := ⟨by decide, rfl⟩) (hy := ⟨by decide, rfl⟩)
  rw [hk, hr, ← c_main_call9_call0_v0__main_call66_call0_v0 hag hel]

theorem c_main_call9_v4__main_call66_v4 : StableHlo.after Cert.KernelIdeal.Hand.KOps (Cert.KernelIdeal.Hand.Wl (F := Ideal) m ρ c) (Proc.devRef .tc Cert.KernelIdeal.main_call9_v4) = StableHlo.after (Cert.ReferenceIdeal.Hand.ops (F := Ideal)) (StableHlo.launchContents m' c) (Proc.devRef .tc Cert.ReferenceIdeal.main_call66_v4) := by
  have hk := StableHlo.Ascending.eq_ternary Cert.KernelIdeal.Hand.KOps_asc (Cert.KernelIdeal.Hand.Wl m ρ c) (Cert.KernelIdeal.Hand.mem_KOps_st7 (Cert.KernelIdeal.Hand.mem_st_7_17 (List.getElem_mem (l := Cert.KernelIdeal.GenP.hostOps7_17 (F := Ideal)) (n := 9) (by decide)))) rfl rfl rfl rfl (by decide) (by decide) (by decide) (c := Cert.KernelIdeal.main_call9_v3) (a := Cert.KernelIdeal.main_call9_call0_v1) (b := Cert.KernelIdeal.main_v332) (y := Cert.KernelIdeal.main_call9_v4) (f := (select : (⟨Cert.KernelIdeal.S2048x8, .i1⟩ : BufTy).Contents (Elt Ideal) → (⟨Cert.KernelIdeal.S2048x8, .f32⟩ : BufTy).Contents (Elt Ideal) → (⟨Cert.KernelIdeal.S2048x8, .f32⟩ : BufTy).Contents (Elt Ideal) → (⟨Cert.KernelIdeal.S2048x8, .f32⟩ : BufTy).Contents (Elt Ideal))) (hc := ⟨by decide, rfl⟩) (ha := ⟨by decide, rfl⟩) (hb := ⟨by decide, rfl⟩) (hy := ⟨by decide, rfl⟩)
  have hr := StableHlo.Ascending.eq_ternary (Cert.ReferenceIdeal.Hand.ops_asc (F := Ideal)) (StableHlo.launchContents m' c) (Cert.ReferenceIdeal.Hand.mem_ops_part29 (List.getElem_mem (l := Cert.ReferenceIdeal.Hand.ops_part29 (F := Ideal)) (n := 56) (by decide))) rfl rfl rfl rfl (by decide) (by decide) (by decide) (c := Cert.ReferenceIdeal.main_call66_v3) (a := Cert.ReferenceIdeal.main_call66_call0_v1) (b := Cert.ReferenceIdeal.main_v1463) (y := Cert.ReferenceIdeal.main_call66_v4) (f := (select : (⟨Cert.ReferenceIdeal.S2048x8, .i1⟩ : BufTy).Contents (Elt Ideal) → (⟨Cert.ReferenceIdeal.S2048x8, .f32⟩ : BufTy).Contents (Elt Ideal) → (⟨Cert.ReferenceIdeal.S2048x8, .f32⟩ : BufTy).Contents (Elt Ideal) → (⟨Cert.ReferenceIdeal.S2048x8, .f32⟩ : BufTy).Contents (Elt Ideal))) (hc := ⟨by decide, rfl⟩) (ha := ⟨by decide, rfl⟩) (hb := ⟨by decide, rfl⟩) (hy := ⟨by decide, rfl⟩)
  rw [hk, hr, ← c_main_call9_v3__main_call66_v3 hag hel, ← c_main_call9_call0_v1__main_call66_call0_v1 hag hel, ← c_main_v332__main_v1463 hag hel]

theorem c_main_call9_v5__main_call66_v5 : StableHlo.after Cert.KernelIdeal.Hand.KOps (Cert.KernelIdeal.Hand.Wl (F := Ideal) m ρ c) (Proc.devRef .tc Cert.KernelIdeal.main_call9_v5) = StableHlo.after (Cert.ReferenceIdeal.Hand.ops (F := Ideal)) (StableHlo.launchContents m' c) (Proc.devRef .tc Cert.ReferenceIdeal.main_call66_v5) := by
  have hk := StableHlo.Ascending.eq_unary Cert.KernelIdeal.Hand.KOps_asc (Cert.KernelIdeal.Hand.Wl m ρ c) (Cert.KernelIdeal.Hand.mem_KOps_st7 (Cert.KernelIdeal.Hand.mem_st_7_17 (List.getElem_mem (l := Cert.KernelIdeal.GenP.hostOps7_17 (F := Ideal)) (n := 10) (by decide)))) rfl rfl (by decide) (x := Cert.KernelIdeal.main_call9_v4) (y := Cert.KernelIdeal.main_call9_v5) (f := open Cert.KernelIdeal Cert.KernelIdeal.Gen in Host.expm1 (F := Ideal)) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part29 (List.getElem_mem (l := Cert.ReferenceIdeal.Hand.ops_part29 (F := Ideal)) (n := 57) (by decide))) rfl rfl (by decide) (x := Cert.ReferenceIdeal.main_call66_v4) (y := Cert.ReferenceIdeal.main_call66_v5) (f := open Cert.ReferenceIdeal Cert.ReferenceIdeal.Gen in Host.expm1 (F := Ideal)) (hx := ⟨by decide, rfl⟩) (hy := ⟨by decide, rfl⟩)
  rw [hk, hr, ← c_main_call9_v4__main_call66_v4 hag hel]

theorem c_main_call9_cst_2__main_call66_cst_2 : StableHlo.after Cert.KernelIdeal.Hand.KOps (Cert.KernelIdeal.Hand.Wl (F := Ideal) m ρ c) (Proc.devRef .tc Cert.KernelIdeal.main_call9_cst_2) = StableHlo.after (Cert.ReferenceIdeal.Hand.ops (F := Ideal)) (StableHlo.launchContents m' c) (Proc.devRef .tc Cert.ReferenceIdeal.main_call66_cst_2) := by
  have hk := StableHlo.Ascending.eq_nullary Cert.KernelIdeal.Hand.KOps_asc (Cert.KernelIdeal.Hand.Wl m ρ c) (Cert.KernelIdeal.Hand.mem_KOps_st7 (Cert.KernelIdeal.Hand.mem_st_7_17 (List.getElem_mem (l := Cert.KernelIdeal.GenP.hostOps7_17 (F := Ideal)) (n := 11) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part29 (List.getElem_mem (l := Cert.ReferenceIdeal.Hand.ops_part29 (F := Ideal)) (n := 58) (by decide))) rfl (hy := ⟨by decide, rfl⟩)
  rw [hk, hr]

theorem c_main_call9_v6__main_call66_v6 : StableHlo.after Cert.KernelIdeal.Hand.KOps (Cert.KernelIdeal.Hand.Wl (F := Ideal) m ρ c) (Proc.devRef .tc Cert.KernelIdeal.main_call9_v6) = StableHlo.after (Cert.ReferenceIdeal.Hand.ops (F := Ideal)) (StableHlo.launchContents m' c) (Proc.devRef .tc Cert.ReferenceIdeal.main_call66_v6) := by
  have hk := StableHlo.Ascending.eq_unary Cert.KernelIdeal.Hand.KOps_asc (Cert.KernelIdeal.Hand.Wl m ρ c) (Cert.KernelIdeal.Hand.mem_KOps_st7 (Cert.KernelIdeal.Hand.mem_st_7_17 (List.getElem_mem (l := Cert.KernelIdeal.GenP.hostOps7_17 (F := Ideal)) (n := 12) (by decide)))) rfl rfl (by decide) (x := Cert.KernelIdeal.main_call9_cst_2) (y := Cert.KernelIdeal.main_call9_v6) (f := open Cert.KernelIdeal Cert.KernelIdeal.Gen in (broadcastInDim S2048x8 ![] bcast_S_S2048x8)) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part29 (List.getElem_mem (l := Cert.ReferenceIdeal.Hand.ops_part29 (F := Ideal)) (n := 59) (by decide))) rfl rfl (by decide) (x := Cert.ReferenceIdeal.main_call66_cst_2) (y := Cert.ReferenceIdeal.main_call66_v6) (f := open Cert.ReferenceIdeal Cert.ReferenceIdeal.Gen in (broadcastInDim S2048x8 ![] bcast_S_S2048x8)) (hx := ⟨by decide, rfl⟩) (hy := ⟨by decide, rfl⟩)
  rw [hk, hr, ← c_main_call9_cst_2__main_call66_cst_2 hag hel]

theorem c_main_call9_v7__main_call66_v7 : StableHlo.after Cert.KernelIdeal.Hand.KOps (Cert.KernelIdeal.Hand.Wl (F := Ideal) m ρ c) (Proc.devRef .tc Cert.KernelIdeal.main_call9_v7) = StableHlo.after (Cert.ReferenceIdeal.Hand.ops (F := Ideal)) (StableHlo.launchContents m' c) (Proc.devRef .tc Cert.ReferenceIdeal.main_call66_v7) := by
  have hk := StableHlo.Ascending.eq_binary Cert.KernelIdeal.Hand.KOps_asc (Cert.KernelIdeal.Hand.Wl m ρ c) (Cert.KernelIdeal.Hand.mem_KOps_st7 (Cert.KernelIdeal.Hand.mem_st_7_17 (List.getElem_mem (l := Cert.KernelIdeal.GenP.hostOps7_17 (F := Ideal)) (n := 13) (by decide)))) rfl rfl rfl (by decide) (by decide) (a := Cert.KernelIdeal.main_call9_v6) (b := Cert.KernelIdeal.main_call9_v5) (y := Cert.KernelIdeal.main_call9_v7) (f := open Cert.KernelIdeal Cert.KernelIdeal.Gen in mulf (F := Ideal)) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part29 (List.getElem_mem (l := Cert.ReferenceIdeal.Hand.ops_part29 (F := Ideal)) (n := 60) (by decide))) rfl rfl rfl (by decide) (by decide) (a := Cert.ReferenceIdeal.main_call66_v6) (b := Cert.ReferenceIdeal.main_call66_v5) (y := Cert.ReferenceIdeal.main_call66_v7) (f := open Cert.ReferenceIdeal Cert.ReferenceIdeal.Gen in mulf (F := Ideal)) (ha := ⟨by decide, rfl⟩) (hb := ⟨by decide, rfl⟩) (hy := ⟨by decide, rfl⟩)
  rw [hk, hr, ← c_main_call9_v6__main_call66_v6 hag hel, ← c_main_call9_v5__main_call66_v5 hag hel]

theorem c_main_v333__main_v1464 : StableHlo.after Cert.KernelIdeal.Hand.KOps (Cert.KernelIdeal.Hand.Wl (F := Ideal) m ρ c) (Proc.devRef .tc Cert.KernelIdeal.main_v333) = StableHlo.after (Cert.ReferenceIdeal.Hand.ops (F := Ideal)) (StableHlo.launchContents m' c) (Proc.devRef .tc Cert.ReferenceIdeal.main_v1464) := by
  have hk := StableHlo.Ascending.eq_ternary Cert.KernelIdeal.Hand.KOps_asc (Cert.KernelIdeal.Hand.Wl m ρ c) (Cert.KernelIdeal.Hand.mem_KOps_st7 (Cert.KernelIdeal.Hand.mem_st_7_17 (List.getElem_mem (l := Cert.KernelIdeal.GenP.hostOps7_17 (F := Ideal)) (n := 14) (by decide)))) rfl rfl rfl rfl (by decide) (by decide) (by decide) (c := Cert.KernelIdeal.main_call9_v1) (a := Cert.KernelIdeal.main_v332) (b := Cert.KernelIdeal.main_call9_v7) (y := Cert.KernelIdeal.main_v333) (f := (select : (⟨Cert.KernelIdeal.S2048x8, .i1⟩ : BufTy).Contents (Elt Ideal) → (⟨Cert.KernelIdeal.S2048x8, .f32⟩ : BufTy).Contents (Elt Ideal) → (⟨Cert.KernelIdeal.S2048x8, .f32⟩ : BufTy).Contents (Elt Ideal) → (⟨Cert.KernelIdeal.S2048x8, .f32⟩ : BufTy).Contents (Elt Ideal))) (hc := ⟨by decide, rfl⟩) (ha := ⟨by decide, rfl⟩) (hb := ⟨by decide, rfl⟩) (hy := ⟨by decide, rfl⟩)
  have hr := StableHlo.Ascending.eq_ternary (Cert.ReferenceIdeal.Hand.ops_asc (F := Ideal)) (StableHlo.launchContents m' c) (Cert.ReferenceIdeal.Hand.mem_ops_part29 (List.getElem_mem (l := Cert.ReferenceIdeal.Hand.ops_part29 (F := Ideal)) (n := 61) (by decide))) rfl rfl rfl rfl (by decide) (by decide) (by decide) (c := Cert.ReferenceIdeal.main_call66_v1) (a := Cert.ReferenceIdeal.main_v1463) (b := Cert.ReferenceIdeal.main_call66_v7) (y := Cert.ReferenceIdeal.main_v1464) (f := (select : (⟨Cert.ReferenceIdeal.S2048x8, .i1⟩ : BufTy).Contents (Elt Ideal) → (⟨Cert.ReferenceIdeal.S2048x8, .f32⟩ : BufTy).Contents (Elt Ideal) → (⟨Cert.ReferenceIdeal.S2048x8, .f32⟩ : BufTy).Contents (Elt Ideal) → (⟨Cert.ReferenceIdeal.S2048x8, .f32⟩ : BufTy).Contents (Elt Ideal))) (hc := ⟨by decide, rfl⟩) (ha := ⟨by decide, rfl⟩) (hb := ⟨by decide, rfl⟩) (hy := ⟨by decide, rfl⟩)
  rw [hk, hr, ← c_main_call9_v1__main_call66_v1 hag hel, ← c_main_v332__main_v1463 hag hel, ← c_main_call9_v7__main_call66_v7 hag hel]

theorem c_main_v334__main_v1466 : StableHlo.after Cert.KernelIdeal.Hand.KOps (Cert.KernelIdeal.Hand.Wl (F := Ideal) m ρ c) (Proc.devRef .tc Cert.KernelIdeal.main_v334) = StableHlo.after (Cert.ReferenceIdeal.Hand.ops (F := Ideal)) (StableHlo.launchContents m' c) (Proc.devRef .tc Cert.ReferenceIdeal.main_v1466) := by
  have hk := StableHlo.Ascending.eq_binary Cert.KernelIdeal.Hand.KOps_asc (Cert.KernelIdeal.Hand.Wl m ρ c) (Cert.KernelIdeal.Hand.mem_KOps_st7 (Cert.KernelIdeal.Hand.mem_st_7_18 (List.getElem_mem (l := Cert.KernelIdeal.GenP.hostOps7_18 (F := Ideal)) (n := 0) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part29 (List.getElem_mem (l := Cert.ReferenceIdeal.Hand.ops_part29 (F := Ideal)) (n := 63) (by decide))) rfl rfl rfl (by decide) (by decide) (ha := ⟨by decide, rfl⟩) (hb := ⟨by decide, rfl⟩) (hy := ⟨by decide, rfl⟩)
  rw [hk, hr, ← c_main_v38__main_v137 hag hel, ← c_main_v291__main_v1386 hag hel]
  rfl

theorem c_main_v335__main_v1467 : StableHlo.after Cert.KernelIdeal.Hand.KOps (Cert.KernelIdeal.Hand.Wl (F := Ideal) m ρ c) (Proc.devRef .tc Cert.KernelIdeal.main_v335) = StableHlo.after (Cert.ReferenceIdeal.Hand.ops (F := Ideal)) (StableHlo.launchContents m' c) (Proc.devRef .tc Cert.ReferenceIdeal.main_v1467) := by
  have hk := StableHlo.Ascending.eq_binary Cert.KernelIdeal.Hand.KOps_asc (Cert.KernelIdeal.Hand.Wl m ρ c) (Cert.KernelIdeal.Hand.mem_KOps_st7 (Cert.KernelIdeal.Hand.mem_st_7_18 (List.getElem_mem (l := Cert.KernelIdeal.GenP.hostOps7_18 (F := Ideal)) (n := 1) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part29 (List.getElem_mem (l := Cert.ReferenceIdeal.Hand.ops_part29 (F := Ideal)) (n := 64) (by decide))) rfl rfl rfl (by decide) (by decide) (ha := ⟨by decide, rfl⟩) (hb := ⟨by decide, rfl⟩) (hy := ⟨by decide, rfl⟩)
  rw [hk, hr, ← c_main_v45__main_v144 hag hel, ← c_main_v291__main_v1386 hag hel]
  rfl

theorem c_main_v336__main_v1468 : StableHlo.after Cert.KernelIdeal.Hand.KOps (Cert.KernelIdeal.Hand.Wl (F := Ideal) m ρ c) (Proc.devRef .tc Cert.KernelIdeal.main_v336) = StableHlo.after (Cert.ReferenceIdeal.Hand.ops (F := Ideal)) (StableHlo.launchContents m' c) (Proc.devRef .tc Cert.ReferenceIdeal.main_v1468) := by
  have hk := StableHlo.Ascending.eq_unary Cert.KernelIdeal.Hand.KOps_asc (Cert.KernelIdeal.Hand.Wl m ρ c) (Cert.KernelIdeal.Hand.mem_KOps_st7 (Cert.KernelIdeal.Hand.mem_st_7_18 (List.getElem_mem (l := Cert.KernelIdeal.GenP.hostOps7_18 (F := Ideal)) (n := 2) (by decide)))) rfl rfl (by decide) (x := Cert.KernelIdeal.main_v289) (y := Cert.KernelIdeal.main_v336) (f := open Cert.KernelIdeal Cert.KernelIdeal.Gen in (extractStridedSlice S8x1 ![0, 0] · slices_S16x1_S8x1_0_0)) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part29 (List.getElem_mem (l := Cert.ReferenceIdeal.Hand.ops_part29 (F := Ideal)) (n := 65) (by decide))) rfl rfl (by decide) (x := Cert.ReferenceIdeal.main_v1384) (y := Cert.ReferenceIdeal.main_v1468) (f := open Cert.ReferenceIdeal Cert.ReferenceIdeal.Gen in (extractStridedSlice S8x1 ![0, 0] · slices_S16x1_S8x1_0_0)) (hx := ⟨by decide, rfl⟩) (hy := ⟨by decide, rfl⟩)
  rw [hk, hr, ← c_main_v289__main_v1384 hag hel]

theorem c_main_v337__main_v1469 : StableHlo.after Cert.KernelIdeal.Hand.KOps (Cert.KernelIdeal.Hand.Wl (F := Ideal) m ρ c) (Proc.devRef .tc Cert.KernelIdeal.main_v337) = StableHlo.after (Cert.ReferenceIdeal.Hand.ops (F := Ideal)) (StableHlo.launchContents m' c) (Proc.devRef .tc Cert.ReferenceIdeal.main_v1469) := by
  have hk := StableHlo.Ascending.eq_binary Cert.KernelIdeal.Hand.KOps_asc (Cert.KernelIdeal.Hand.Wl m ρ c) (Cert.KernelIdeal.Hand.mem_KOps_st7 (Cert.KernelIdeal.Hand.mem_st_7_18 (List.getElem_mem (l := Cert.KernelIdeal.GenP.hostOps7_18 (F := Ideal)) (n := 3) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part29 (List.getElem_mem (l := Cert.ReferenceIdeal.Hand.ops_part29 (F := Ideal)) (n := 66) (by decide))) rfl rfl rfl (by decide) (by decide) (ha := ⟨by decide, rfl⟩) (hb := ⟨by decide, rfl⟩) (hy := ⟨by decide, rfl⟩)
  rw [hk, hr, ← c_main_v334__main_v1466 hag hel, ← c_main_v336__main_v1468 hag hel]
  rfl

theorem c_main_v338__main_v1470 : StableHlo.after Cert.KernelIdeal.Hand.KOps (Cert.KernelIdeal.Hand.Wl (F := Ideal) m ρ c) (Proc.devRef .tc Cert.KernelIdeal.main_v338) = StableHlo.after (Cert.ReferenceIdeal.Hand.ops (F := Ideal)) (StableHlo.launchContents m' c) (Proc.devRef .tc Cert.ReferenceIdeal.main_v1470) := by
  have hk := StableHlo.Ascending.eq_unary Cert.KernelIdeal.Hand.KOps_asc (Cert.KernelIdeal.Hand.Wl m ρ c) (Cert.KernelIdeal.Hand.mem_KOps_st7 (Cert.KernelIdeal.Hand.mem_st_7_18 (List.getElem_mem (l := Cert.KernelIdeal.GenP.hostOps7_18 (F := Ideal)) (n := 4) (by decide)))) rfl rfl (by decide) (x := Cert.KernelIdeal.main_v289) (y := Cert.KernelIdeal.main_v338) (f := open Cert.KernelIdeal Cert.KernelIdeal.Gen in (extractStridedSlice S8x1 ![8, 0] · slices_S16x1_S8x1_8_0)) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part29 (List.getElem_mem (l := Cert.ReferenceIdeal.Hand.ops_part29 (F := Ideal)) (n := 67) (by decide))) rfl rfl (by decide) (x := Cert.ReferenceIdeal.main_v1384) (y := Cert.ReferenceIdeal.main_v1470) (f := open Cert.ReferenceIdeal Cert.ReferenceIdeal.Gen in (extractStridedSlice S8x1 ![8, 0] · slices_S16x1_S8x1_8_0)) (hx := ⟨by decide, rfl⟩) (hy := ⟨by decide, rfl⟩)
  rw [hk, hr, ← c_main_v289__main_v1384 hag hel]

theorem c_main_v339__main_v1471 : StableHlo.after Cert.KernelIdeal.Hand.KOps (Cert.KernelIdeal.Hand.Wl (F := Ideal) m ρ c) (Proc.devRef .tc Cert.KernelIdeal.main_v339) = StableHlo.after (Cert.ReferenceIdeal.Hand.ops (F := Ideal)) (StableHlo.launchContents m' c) (Proc.devRef .tc Cert.ReferenceIdeal.main_v1471) := by
  have hk := StableHlo.Ascending.eq_binary Cert.KernelIdeal.Hand.KOps_asc (Cert.KernelIdeal.Hand.Wl m ρ c) (Cert.KernelIdeal.Hand.mem_KOps_st7 (Cert.KernelIdeal.Hand.mem_st_7_18 (List.getElem_mem (l := Cert.KernelIdeal.GenP.hostOps7_18 (F := Ideal)) (n := 5) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part29 (List.getElem_mem (l := Cert.ReferenceIdeal.Hand.ops_part29 (F := Ideal)) (n := 68) (by decide))) rfl rfl rfl (by decide) (by decide) (ha := ⟨by decide, rfl⟩) (hb := ⟨by decide, rfl⟩) (hy := ⟨by decide, rfl⟩)
  rw [hk, hr, ← c_main_v335__main_v1467 hag hel, ← c_main_v338__main_v1470 hag hel]
  rfl

theorem c_main_v340__main_v1472 : StableHlo.after Cert.KernelIdeal.Hand.KOps (Cert.KernelIdeal.Hand.Wl (F := Ideal) m ρ c) (Proc.devRef .tc Cert.KernelIdeal.main_v340) = StableHlo.after (Cert.ReferenceIdeal.Hand.ops (F := Ideal)) (StableHlo.launchContents m' c) (Proc.devRef .tc Cert.ReferenceIdeal.main_v1472) := by
  have hk := StableHlo.Ascending.eq_unary Cert.KernelIdeal.Hand.KOps_asc (Cert.KernelIdeal.Hand.Wl m ρ c) (Cert.KernelIdeal.Hand.mem_KOps_st7 (Cert.KernelIdeal.Hand.mem_st_7_18 (List.getElem_mem (l := Cert.KernelIdeal.GenP.hostOps7_18 (F := Ideal)) (n := 6) (by decide)))) rfl rfl (by decide) (x := Cert.KernelIdeal.main_v339) (y := Cert.KernelIdeal.main_v340) (f := open Cert.KernelIdeal Cert.KernelIdeal.Gen in (transpose S1x2048 [1, 0] · transposes_S2048x1_S1x2048_1_0)) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part29 (List.getElem_mem (l := Cert.ReferenceIdeal.Hand.ops_part29 (F := Ideal)) (n := 69) (by decide))) rfl rfl (by decide) (x := Cert.ReferenceIdeal.main_v1471) (y := Cert.ReferenceIdeal.main_v1472) (f := open Cert.ReferenceIdeal Cert.ReferenceIdeal.Gen in (transpose S1x2048 [1, 0] · transposes_S2048x1_S1x2048_1_0)) (hx := ⟨by decide, rfl⟩) (hy := ⟨by decide, rfl⟩)
  rw [hk, hr, ← c_main_v339__main_v1471 hag hel]

theorem c_main_v341__main_v1473 : StableHlo.after Cert.KernelIdeal.Hand.KOps (Cert.KernelIdeal.Hand.Wl (F := Ideal) m ρ c) (Proc.devRef .tc Cert.KernelIdeal.main_v341) = StableHlo.after (Cert.ReferenceIdeal.Hand.ops (F := Ideal)) (StableHlo.launchContents m' c) (Proc.devRef .tc Cert.ReferenceIdeal.main_v1473) := by
  have hk := StableHlo.Ascending.eq_unary Cert.KernelIdeal.Hand.KOps_asc (Cert.KernelIdeal.Hand.Wl m ρ c) (Cert.KernelIdeal.Hand.mem_KOps_st7 (Cert.KernelIdeal.Hand.mem_st_7_18 (List.getElem_mem (l := Cert.KernelIdeal.GenP.hostOps7_18 (F := Ideal)) (n := 7) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part29 (List.getElem_mem (l := Cert.ReferenceIdeal.Hand.ops_part29 (F := Ideal)) (n := 70) (by decide))) rfl rfl (by decide) (hx := ⟨by decide, rfl⟩) (hy := ⟨by decide, rfl⟩)
  rw [hk, hr, ← c_main_v337__main_v1469 hag hel]

theorem c_main_v342__main_v1474 : StableHlo.after Cert.KernelIdeal.Hand.KOps (Cert.KernelIdeal.Hand.Wl (F := Ideal) m ρ c) (Proc.devRef .tc Cert.KernelIdeal.main_v342) = StableHlo.after (Cert.ReferenceIdeal.Hand.ops (F := Ideal)) (StableHlo.launchContents m' c) (Proc.devRef .tc Cert.ReferenceIdeal.main_v1474) := by
  have hk := StableHlo.Ascending.eq_unary Cert.KernelIdeal.Hand.KOps_asc (Cert.KernelIdeal.Hand.Wl m ρ c) (Cert.KernelIdeal.Hand.mem_KOps_st7 (Cert.KernelIdeal.Hand.mem_st_7_18 (List.getElem_mem (l := Cert.KernelIdeal.GenP.hostOps7_18 (F := Ideal)) (n := 8) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part29 (List.getElem_mem (l := Cert.ReferenceIdeal.Hand.ops_part29 (F := Ideal)) (n := 71) (by decide))) rfl rfl (by decide) (hx := ⟨by decide, rfl⟩) (hy := ⟨by decide, rfl⟩)
  rw [hk, hr, ← c_main_v340__main_v1472 hag hel]

theorem c_main_v343__main_v1475 : StableHlo.after Cert.KernelIdeal.Hand.KOps (Cert.KernelIdeal.Hand.Wl (F := Ideal) m ρ c) (Proc.devRef .tc Cert.KernelIdeal.main_v343) = StableHlo.after (Cert.ReferenceIdeal.Hand.ops (F := Ideal)) (StableHlo.launchContents m' c) (Proc.devRef .tc Cert.ReferenceIdeal.main_v1475) := by
  have hk := StableHlo.Ascending.eq_binary Cert.KernelIdeal.Hand.KOps_asc (Cert.KernelIdeal.Hand.Wl m ρ c) (Cert.KernelIdeal.Hand.mem_KOps_st7 (Cert.KernelIdeal.Hand.mem_st_7_18 (List.getElem_mem (l := Cert.KernelIdeal.GenP.hostOps7_18 (F := Ideal)) (n := 9) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part29 (List.getElem_mem (l := Cert.ReferenceIdeal.Hand.ops_part29 (F := Ideal)) (n := 72) (by decide))) rfl rfl rfl (by decide) (by decide) (ha := ⟨by decide, rfl⟩) (hb := ⟨by decide, rfl⟩) (hy := ⟨by decide, rfl⟩)
  rw [hk, hr, ← c_main_v341__main_v1473 hag hel, ← c_main_v342__main_v1474 hag hel]

theorem c_main_cst_61__main_cst_313 : StableHlo.after Cert.KernelIdeal.Hand.KOps (Cert.KernelIdeal.Hand.Wl (F := Ideal) m ρ c) (Proc.devRef .tc Cert.KernelIdeal.main_cst_61) = StableHlo.after (Cert.ReferenceIdeal.Hand.ops (F := Ideal)) (StableHlo.launchContents m' c) (Proc.devRef .tc Cert.ReferenceIdeal.main_cst_313) := by
  have hk := StableHlo.Ascending.eq_nullary Cert.KernelIdeal.Hand.KOps_asc (Cert.KernelIdeal.Hand.Wl m ρ c) (Cert.KernelIdeal.Hand.mem_KOps_st7 (Cert.KernelIdeal.Hand.mem_st_7_18 (List.getElem_mem (l := Cert.KernelIdeal.GenP.hostOps7_18 (F := Ideal)) (n := 10) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part29 (List.getElem_mem (l := Cert.ReferenceIdeal.Hand.ops_part29 (F := Ideal)) (n := 73) (by decide))) rfl (hy := ⟨by decide, rfl⟩)
  rw [hk, hr]

theorem c_main_call10_cst__main_call67_cst : StableHlo.after Cert.KernelIdeal.Hand.KOps (Cert.KernelIdeal.Hand.Wl (F := Ideal) m ρ c) (Proc.devRef .tc Cert.KernelIdeal.main_call10_cst) = StableHlo.after (Cert.ReferenceIdeal.Hand.ops (F := Ideal)) (StableHlo.launchContents m' c) (Proc.devRef .tc Cert.ReferenceIdeal.main_call67_cst) := by
  have hk := StableHlo.Ascending.eq_nullary Cert.KernelIdeal.Hand.KOps_asc (Cert.KernelIdeal.Hand.Wl m ρ c) (Cert.KernelIdeal.Hand.mem_KOps_st7 (Cert.KernelIdeal.Hand.mem_st_7_19 (List.getElem_mem (l := Cert.KernelIdeal.GenP.hostOps7_19 (F := Ideal)) (n := 0) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part29 (List.getElem_mem (l := Cert.ReferenceIdeal.Hand.ops_part29 (F := Ideal)) (n := 74) (by decide))) rfl (hy := ⟨by decide, rfl⟩)
  rw [hk, hr]

theorem c_main_call10_v0__main_call67_v0 : StableHlo.after Cert.KernelIdeal.Hand.KOps (Cert.KernelIdeal.Hand.Wl (F := Ideal) m ρ c) (Proc.devRef .tc Cert.KernelIdeal.main_call10_v0) = StableHlo.after (Cert.ReferenceIdeal.Hand.ops (F := Ideal)) (StableHlo.launchContents m' c) (Proc.devRef .tc Cert.ReferenceIdeal.main_call67_v0) := by
  have hk := StableHlo.Ascending.eq_unary Cert.KernelIdeal.Hand.KOps_asc (Cert.KernelIdeal.Hand.Wl m ρ c) (Cert.KernelIdeal.Hand.mem_KOps_st7 (Cert.KernelIdeal.Hand.mem_st_7_19 (List.getElem_mem (l := Cert.KernelIdeal.GenP.hostOps7_19 (F := Ideal)) (n := 1) (by decide)))) rfl rfl (by decide) (x := Cert.KernelIdeal.main_call10_cst) (y := Cert.KernelIdeal.main_call10_v0) (f := open Cert.KernelIdeal Cert.KernelIdeal.Gen in (broadcastInDim S2048x2048 ![] bcast_S_S2048x2048)) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part29 (List.getElem_mem (l := Cert.ReferenceIdeal.Hand.ops_part29 (F := Ideal)) (n := 75) (by decide))) rfl rfl (by decide) (x := Cert.ReferenceIdeal.main_call67_cst) (y := Cert.ReferenceIdeal.main_call67_v0) (f := open Cert.ReferenceIdeal Cert.ReferenceIdeal.Gen in (broadcastInDim S2048x2048 ![] bcast_S_S2048x2048)) (hx := ⟨by decide, rfl⟩) (hy := ⟨by decide, rfl⟩)
  rw [hk, hr, ← c_main_call10_cst__main_call67_cst hag hel]

theorem c_main_call10_v1__main_call67_v1 : StableHlo.after Cert.KernelIdeal.Hand.KOps (Cert.KernelIdeal.Hand.Wl (F := Ideal) m ρ c) (Proc.devRef .tc Cert.KernelIdeal.main_call10_v1) = StableHlo.after (Cert.ReferenceIdeal.Hand.ops (F := Ideal)) (StableHlo.launchContents m' c) (Proc.devRef .tc Cert.ReferenceIdeal.main_call67_v1) := by
  have hk := StableHlo.Ascending.eq_binary Cert.KernelIdeal.Hand.KOps_asc (Cert.KernelIdeal.Hand.Wl m ρ c) (Cert.KernelIdeal.Hand.mem_KOps_st7 (Cert.KernelIdeal.Hand.mem_st_7_19 (List.getElem_mem (l := Cert.KernelIdeal.GenP.hostOps7_19 (F := Ideal)) (n := 2) (by decide)))) rfl rfl rfl (by decide) (by decide) (a := Cert.KernelIdeal.main_v343) (b := Cert.KernelIdeal.main_call10_v0) (y := Cert.KernelIdeal.main_call10_v1) (f := open Cert.KernelIdeal Cert.KernelIdeal.Gen in (cmpf (F := Ideal) .oge)) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part29 (List.getElem_mem (l := Cert.ReferenceIdeal.Hand.ops_part29 (F := Ideal)) (n := 76) (by decide))) rfl rfl rfl (by decide) (by decide) (a := Cert.ReferenceIdeal.main_v1475) (b := Cert.ReferenceIdeal.main_call67_v0) (y := Cert.ReferenceIdeal.main_call67_v1) (f := open Cert.ReferenceIdeal Cert.ReferenceIdeal.Gen in (cmpf (F := Ideal) .oge)) (ha := ⟨by decide, rfl⟩) (hb := ⟨by decide, rfl⟩) (hy := ⟨by decide, rfl⟩)
  rw [hk, hr, ← c_main_v343__main_v1475 hag hel, ← c_main_call10_v0__main_call67_v0 hag hel]

theorem c_main_call10_v2__main_call67_v2 : StableHlo.after Cert.KernelIdeal.Hand.KOps (Cert.KernelIdeal.Hand.Wl (F := Ideal) m ρ c) (Proc.devRef .tc Cert.KernelIdeal.main_call10_v2) = StableHlo.after (Cert.ReferenceIdeal.Hand.ops (F := Ideal)) (StableHlo.launchContents m' c) (Proc.devRef .tc Cert.ReferenceIdeal.main_call67_v2) := by
  have hk := StableHlo.Ascending.eq_unary Cert.KernelIdeal.Hand.KOps_asc (Cert.KernelIdeal.Hand.Wl m ρ c) (Cert.KernelIdeal.Hand.mem_KOps_st7 (Cert.KernelIdeal.Hand.mem_st_7_19 (List.getElem_mem (l := Cert.KernelIdeal.GenP.hostOps7_19 (F := Ideal)) (n := 3) (by decide)))) rfl rfl (by decide) (x := Cert.KernelIdeal.main_cst_61) (y := Cert.KernelIdeal.main_call10_v2) (f := open Cert.KernelIdeal Cert.KernelIdeal.Gen in id) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part29 (List.getElem_mem (l := Cert.ReferenceIdeal.Hand.ops_part29 (F := Ideal)) (n := 77) (by decide))) rfl rfl (by decide) (x := Cert.ReferenceIdeal.main_cst_313) (y := Cert.ReferenceIdeal.main_call67_v2) (f := open Cert.ReferenceIdeal Cert.ReferenceIdeal.Gen in id) (hx := ⟨by decide, rfl⟩) (hy := ⟨by decide, rfl⟩)
  rw [hk, hr, ← c_main_cst_61__main_cst_313 hag hel]

theorem c_main_call10_v3__main_call67_v3 : StableHlo.after Cert.KernelIdeal.Hand.KOps (Cert.KernelIdeal.Hand.Wl (F := Ideal) m ρ c) (Proc.devRef .tc Cert.KernelIdeal.main_call10_v3) = StableHlo.after (Cert.ReferenceIdeal.Hand.ops (F := Ideal)) (StableHlo.launchContents m' c) (Proc.devRef .tc Cert.ReferenceIdeal.main_call67_v3) := by
  have hk := StableHlo.Ascending.eq_unary Cert.KernelIdeal.Hand.KOps_asc (Cert.KernelIdeal.Hand.Wl m ρ c) (Cert.KernelIdeal.Hand.mem_KOps_st7 (Cert.KernelIdeal.Hand.mem_st_7_19 (List.getElem_mem (l := Cert.KernelIdeal.GenP.hostOps7_19 (F := Ideal)) (n := 4) (by decide)))) rfl rfl (by decide) (x := Cert.KernelIdeal.main_call10_v2) (y := Cert.KernelIdeal.main_call10_v3) (f := open Cert.KernelIdeal Cert.KernelIdeal.Gen in (broadcastInDim S2048x2048 ![] bcast_S_S2048x2048)) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part29 (List.getElem_mem (l := Cert.ReferenceIdeal.Hand.ops_part29 (F := Ideal)) (n := 78) (by decide))) rfl rfl (by decide) (x := Cert.ReferenceIdeal.main_call67_v2) (y := Cert.ReferenceIdeal.main_call67_v3) (f := open Cert.ReferenceIdeal Cert.ReferenceIdeal.Gen in (broadcastInDim S2048x2048 ![] bcast_S_S2048x2048)) (hx := ⟨by decide, rfl⟩) (hy := ⟨by decide, rfl⟩)
  rw [hk, hr, ← c_main_call10_v2__main_call67_v2 hag hel]

theorem c_main_call10_v4__main_call67_v4 : StableHlo.after Cert.KernelIdeal.Hand.KOps (Cert.KernelIdeal.Hand.Wl (F := Ideal) m ρ c) (Proc.devRef .tc Cert.KernelIdeal.main_call10_v4) = StableHlo.after (Cert.ReferenceIdeal.Hand.ops (F := Ideal)) (StableHlo.launchContents m' c) (Proc.devRef .tc Cert.ReferenceIdeal.main_call67_v4) := by
  have hk := StableHlo.Ascending.eq_binary Cert.KernelIdeal.Hand.KOps_asc (Cert.KernelIdeal.Hand.Wl m ρ c) (Cert.KernelIdeal.Hand.mem_KOps_st7 (Cert.KernelIdeal.Hand.mem_st_7_19 (List.getElem_mem (l := Cert.KernelIdeal.GenP.hostOps7_19 (F := Ideal)) (n := 5) (by decide)))) rfl rfl rfl (by decide) (by decide) (a := Cert.KernelIdeal.main_call10_v3) (b := Cert.KernelIdeal.main_v343) (y := Cert.KernelIdeal.main_call10_v4) (f := open Cert.KernelIdeal Cert.KernelIdeal.Gen in mulf (F := Ideal)) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part29 (List.getElem_mem (l := Cert.ReferenceIdeal.Hand.ops_part29 (F := Ideal)) (n := 79) (by decide))) rfl rfl rfl (by decide) (by decide) (a := Cert.ReferenceIdeal.main_call67_v3) (b := Cert.ReferenceIdeal.main_v1475) (y := Cert.ReferenceIdeal.main_call67_v4) (f := open Cert.ReferenceIdeal Cert.ReferenceIdeal.Gen in mulf (F := Ideal)) (ha := ⟨by decide, rfl⟩) (hb := ⟨by decide, rfl⟩) (hy := ⟨by decide, rfl⟩)
  rw [hk, hr, ← c_main_call10_v3__main_call67_v3 hag hel, ← c_main_v343__main_v1475 hag hel]

theorem c_main_v344__main_v1476 : StableHlo.after Cert.KernelIdeal.Hand.KOps (Cert.KernelIdeal.Hand.Wl (F := Ideal) m ρ c) (Proc.devRef .tc Cert.KernelIdeal.main_v344) = StableHlo.after (Cert.ReferenceIdeal.Hand.ops (F := Ideal)) (StableHlo.launchContents m' c) (Proc.devRef .tc Cert.ReferenceIdeal.main_v1476) := by
  have hk := StableHlo.Ascending.eq_ternary Cert.KernelIdeal.Hand.KOps_asc (Cert.KernelIdeal.Hand.Wl m ρ c) (Cert.KernelIdeal.Hand.mem_KOps_st7 (Cert.KernelIdeal.Hand.mem_st_7_19 (List.getElem_mem (l := Cert.KernelIdeal.GenP.hostOps7_19 (F := Ideal)) (n := 6) (by decide)))) rfl rfl rfl rfl (by decide) (by decide) (by decide) (c := Cert.KernelIdeal.main_call10_v1) (a := Cert.KernelIdeal.main_v343) (b := Cert.KernelIdeal.main_call10_v4) (y := Cert.KernelIdeal.main_v344) (f := (select : (⟨Cert.KernelIdeal.S2048x2048, .i1⟩ : BufTy).Contents (Elt Ideal) → (⟨Cert.KernelIdeal.S2048x2048, .f32⟩ : BufTy).Contents (Elt Ideal) → (⟨Cert.KernelIdeal.S2048x2048, .f32⟩ : BufTy).Contents (Elt Ideal) → (⟨Cert.KernelIdeal.S2048x2048, .f32⟩ : BufTy).Contents (Elt Ideal))) (hc := ⟨by decide, rfl⟩) (ha := ⟨by decide, rfl⟩) (hb := ⟨by decide, rfl⟩) (hy := ⟨by decide, rfl⟩)
  have hr := StableHlo.Ascending.eq_ternary (Cert.ReferenceIdeal.Hand.ops_asc (F := Ideal)) (StableHlo.launchContents m' c) (Cert.ReferenceIdeal.Hand.mem_ops_part29 (List.getElem_mem (l := Cert.ReferenceIdeal.Hand.ops_part29 (F := Ideal)) (n := 80) (by decide))) rfl rfl rfl rfl (by decide) (by decide) (by decide) (c := Cert.ReferenceIdeal.main_call67_v1) (a := Cert.ReferenceIdeal.main_v1475) (b := Cert.ReferenceIdeal.main_call67_v4) (y := Cert.ReferenceIdeal.main_v1476) (f := (select : (⟨Cert.ReferenceIdeal.S2048x2048, .i1⟩ : BufTy).Contents (Elt Ideal) → (⟨Cert.ReferenceIdeal.S2048x2048, .f32⟩ : BufTy).Contents (Elt Ideal) → (⟨Cert.ReferenceIdeal.S2048x2048, .f32⟩ : BufTy).Contents (Elt Ideal) → (⟨Cert.ReferenceIdeal.S2048x2048, .f32⟩ : BufTy).Contents (Elt Ideal))) (hc := ⟨by decide, rfl⟩) (ha := ⟨by decide, rfl⟩) (hb := ⟨by decide, rfl⟩) (hy := ⟨by decide, rfl⟩)
  rw [hk, hr, ← c_main_call10_v1__main_call67_v1 hag hel, ← c_main_v343__main_v1475 hag hel, ← c_main_call10_v4__main_call67_v4 hag hel]

theorem c_main_cst_62__main_cst_314 : StableHlo.after Cert.KernelIdeal.Hand.KOps (Cert.KernelIdeal.Hand.Wl (F := Ideal) m ρ c) (Proc.devRef .tc Cert.KernelIdeal.main_cst_62) = StableHlo.after (Cert.ReferenceIdeal.Hand.ops (F := Ideal)) (StableHlo.launchContents m' c) (Proc.devRef .tc Cert.ReferenceIdeal.main_cst_314) := by
  have hk := StableHlo.Ascending.eq_nullary Cert.KernelIdeal.Hand.KOps_asc (Cert.KernelIdeal.Hand.Wl m ρ c) (Cert.KernelIdeal.Hand.mem_KOps_st7 (Cert.KernelIdeal.Hand.mem_st_7_20 (List.getElem_mem (l := Cert.KernelIdeal.GenP.hostOps7_20 (F := Ideal)) (n := 0) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part29 (List.getElem_mem (l := Cert.ReferenceIdeal.Hand.ops_part29 (F := Ideal)) (n := 81) (by decide))) rfl (hy := ⟨by decide, rfl⟩)
  rw [hk, hr]

theorem c_main_v345__main_v1477 : StableHlo.after Cert.KernelIdeal.Hand.KOps (Cert.KernelIdeal.Hand.Wl (F := Ideal) m ρ c) (Proc.devRef .tc Cert.KernelIdeal.main_v345) = StableHlo.after (Cert.ReferenceIdeal.Hand.ops (F := Ideal)) (StableHlo.launchContents m' c) (Proc.devRef .tc Cert.ReferenceIdeal.main_v1477) := by
  have hk := StableHlo.Ascending.eq_binary Cert.KernelIdeal.Hand.KOps_asc (Cert.KernelIdeal.Hand.Wl m ρ c) (Cert.KernelIdeal.Hand.mem_KOps_st7 (Cert.KernelIdeal.Hand.mem_st_7_20 (List.getElem_mem (l := Cert.KernelIdeal.GenP.hostOps7_20 (F := Ideal)) (n := 1) (by decide)))) rfl rfl rfl (by decide) (by decide) (a := Cert.KernelIdeal.main_v200) (b := Cert.KernelIdeal.main_cst_62) (y := Cert.KernelIdeal.main_v345) (f := open Cert.KernelIdeal Cert.KernelIdeal.Gen in (fun x v => Host.reduce (FloatOps.minimumf (F := Ideal)) x v reducesTo_S2048x1_S_d0_1 h_S_)) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part29 (List.getElem_mem (l := Cert.ReferenceIdeal.Hand.ops_part29 (F := Ideal)) (n := 82) (by decide))) rfl rfl rfl (by decide) (by decide) (a := Cert.ReferenceIdeal.main_v1422) (b := Cert.ReferenceIdeal.main_cst_314) (y := Cert.ReferenceIdeal.main_v1477) (f := open Cert.ReferenceIdeal Cert.ReferenceIdeal.Gen in (fun x v => Host.reduce (FloatOps.minimumf (F := Ideal)) x v reducesTo_S2048x1_S_d0_1 h_S_)) (ha := ⟨by decide, rfl⟩) (hb := ⟨by decide, rfl⟩) (hy := ⟨by decide, rfl⟩)
  rw [hk, hr, ← c_main_v200__main_v1422 hag hel, ← c_main_cst_62__main_cst_314 hag hel]

theorem c_main_v346__main_v1478 : StableHlo.after Cert.KernelIdeal.Hand.KOps (Cert.KernelIdeal.Hand.Wl (F := Ideal) m ρ c) (Proc.devRef .tc Cert.KernelIdeal.main_v346) = StableHlo.after (Cert.ReferenceIdeal.Hand.ops (F := Ideal)) (StableHlo.launchContents m' c) (Proc.devRef .tc Cert.ReferenceIdeal.main_v1478) := by
  have hk := StableHlo.Ascending.eq_unary Cert.KernelIdeal.Hand.KOps_asc (Cert.KernelIdeal.Hand.Wl m ρ c) (Cert.KernelIdeal.Hand.mem_KOps_st7 (Cert.KernelIdeal.Hand.mem_st_7_20 (List.getElem_mem (l := Cert.KernelIdeal.GenP.hostOps7_20 (F := Ideal)) (n := 2) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part29 (List.getElem_mem (l := Cert.ReferenceIdeal.Hand.ops_part29 (F := Ideal)) (n := 83) (by decide))) rfl rfl (by decide) (hx := ⟨by decide, rfl⟩) (hy := ⟨by decide, rfl⟩)
  rw [hk, hr, ← c_main_v345__main_v1477 hag hel]

theorem c_main_v347__main_v1479 : StableHlo.after Cert.KernelIdeal.Hand.KOps (Cert.KernelIdeal.Hand.Wl (F := Ideal) m ρ c) (Proc.devRef .tc Cert.KernelIdeal.main_v347) = StableHlo.after (Cert.ReferenceIdeal.Hand.ops (F := Ideal)) (StableHlo.launchContents m' c) (Proc.devRef .tc Cert.ReferenceIdeal.main_v1479) := by
  have hk := StableHlo.Ascending.eq_binary Cert.KernelIdeal.Hand.KOps_asc (Cert.KernelIdeal.Hand.Wl m ρ c) (Cert.KernelIdeal.Hand.mem_KOps_st7 (Cert.KernelIdeal.Hand.mem_st_7_20 (List.getElem_mem (l := Cert.KernelIdeal.GenP.hostOps7_20 (F := Ideal)) (n := 3) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part29 (List.getElem_mem (l := Cert.ReferenceIdeal.Hand.ops_part29 (F := Ideal)) (n := 84) (by decide))) rfl rfl rfl (by decide) (by decide) (ha := ⟨by decide, rfl⟩) (hb := ⟨by decide, rfl⟩) (hy := ⟨by decide, rfl⟩)
  rw [hk, hr, ← c_main_v200__main_v1422 hag hel, ← c_main_v346__main_v1478 hag hel]

theorem c_main_cst_63__main_cst_315 : StableHlo.after Cert.KernelIdeal.Hand.KOps (Cert.KernelIdeal.Hand.Wl (F := Ideal) m ρ c) (Proc.devRef .tc Cert.KernelIdeal.main_cst_63) = StableHlo.after (Cert.ReferenceIdeal.Hand.ops (F := Ideal)) (StableHlo.launchContents m' c) (Proc.devRef .tc Cert.ReferenceIdeal.main_cst_315) := by
  have hk := StableHlo.Ascending.eq_nullary Cert.KernelIdeal.Hand.KOps_asc (Cert.KernelIdeal.Hand.Wl m ρ c) (Cert.KernelIdeal.Hand.mem_KOps_st7 (Cert.KernelIdeal.Hand.mem_st_7_20 (List.getElem_mem (l := Cert.KernelIdeal.GenP.hostOps7_20 (F := Ideal)) (n := 4) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part29 (List.getElem_mem (l := Cert.ReferenceIdeal.Hand.ops_part29 (F := Ideal)) (n := 85) (by decide))) rfl (hy := ⟨by decide, rfl⟩)
  rw [hk, hr]

theorem c_main_v348__main_v1480 : StableHlo.after Cert.KernelIdeal.Hand.KOps (Cert.KernelIdeal.Hand.Wl (F := Ideal) m ρ c) (Proc.devRef .tc Cert.KernelIdeal.main_v348) = StableHlo.after (Cert.ReferenceIdeal.Hand.ops (F := Ideal)) (StableHlo.launchContents m' c) (Proc.devRef .tc Cert.ReferenceIdeal.main_v1480) := by
  have hk := StableHlo.Ascending.eq_binary Cert.KernelIdeal.Hand.KOps_asc (Cert.KernelIdeal.Hand.Wl m ρ c) (Cert.KernelIdeal.Hand.mem_KOps_st7 (Cert.KernelIdeal.Hand.mem_st_7_20 (List.getElem_mem (l := Cert.KernelIdeal.GenP.hostOps7_20 (F := Ideal)) (n := 5) (by decide)))) rfl rfl rfl (by decide) (by decide) (a := Cert.KernelIdeal.main_v200) (b := Cert.KernelIdeal.main_cst_63) (y := Cert.KernelIdeal.main_v348) (f := open Cert.KernelIdeal Cert.KernelIdeal.Gen in (fun x v => Host.reduce (FloatOps.maximumf (F := Ideal)) x v reducesTo_S2048x1_S_d0_1 h_S_)) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part29 (List.getElem_mem (l := Cert.ReferenceIdeal.Hand.ops_part29 (F := Ideal)) (n := 86) (by decide))) rfl rfl rfl (by decide) (by decide) (a := Cert.ReferenceIdeal.main_v1422) (b := Cert.ReferenceIdeal.main_cst_315) (y := Cert.ReferenceIdeal.main_v1480) (f := open Cert.ReferenceIdeal Cert.ReferenceIdeal.Gen in (fun x v => Host.reduce (FloatOps.maximumf (F := Ideal)) x v reducesTo_S2048x1_S_d0_1 h_S_)) (ha := ⟨by decide, rfl⟩) (hb := ⟨by decide, rfl⟩) (hy := ⟨by decide, rfl⟩)
  rw [hk, hr, ← c_main_v200__main_v1422 hag hel, ← c_main_cst_63__main_cst_315 hag hel]

theorem c_main_cst_64__main_cst_316 : StableHlo.after Cert.KernelIdeal.Hand.KOps (Cert.KernelIdeal.Hand.Wl (F := Ideal) m ρ c) (Proc.devRef .tc Cert.KernelIdeal.main_cst_64) = StableHlo.after (Cert.ReferenceIdeal.Hand.ops (F := Ideal)) (StableHlo.launchContents m' c) (Proc.devRef .tc Cert.ReferenceIdeal.main_cst_316) := by
  have hk := StableHlo.Ascending.eq_nullary Cert.KernelIdeal.Hand.KOps_asc (Cert.KernelIdeal.Hand.Wl m ρ c) (Cert.KernelIdeal.Hand.mem_KOps_st7 (Cert.KernelIdeal.Hand.mem_st_7_20 (List.getElem_mem (l := Cert.KernelIdeal.GenP.hostOps7_20 (F := Ideal)) (n := 6) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part29 (List.getElem_mem (l := Cert.ReferenceIdeal.Hand.ops_part29 (F := Ideal)) (n := 87) (by decide))) rfl (hy := ⟨by decide, rfl⟩)
  rw [hk, hr]

theorem c_main_v349__main_v1481 : StableHlo.after Cert.KernelIdeal.Hand.KOps (Cert.KernelIdeal.Hand.Wl (F := Ideal) m ρ c) (Proc.devRef .tc Cert.KernelIdeal.main_v349) = StableHlo.after (Cert.ReferenceIdeal.Hand.ops (F := Ideal)) (StableHlo.launchContents m' c) (Proc.devRef .tc Cert.ReferenceIdeal.main_v1481) := by
  have hk := StableHlo.Ascending.eq_binary Cert.KernelIdeal.Hand.KOps_asc (Cert.KernelIdeal.Hand.Wl m ρ c) (Cert.KernelIdeal.Hand.mem_KOps_st7 (Cert.KernelIdeal.Hand.mem_st_7_20 (List.getElem_mem (l := Cert.KernelIdeal.GenP.hostOps7_20 (F := Ideal)) (n := 7) (by decide)))) rfl rfl rfl (by decide) (by decide) (a := Cert.KernelIdeal.main_v200) (b := Cert.KernelIdeal.main_cst_64) (y := Cert.KernelIdeal.main_v349) (f := open Cert.KernelIdeal Cert.KernelIdeal.Gen in (fun x v => Host.reduce (FloatOps.minimumf (F := Ideal)) x v reducesTo_S2048x1_S_d0_1 h_S_)) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part30 (List.getElem_mem (l := Cert.ReferenceIdeal.Hand.ops_part30 (F := Ideal)) (n := 0) (by decide))) rfl rfl rfl (by decide) (by decide) (a := Cert.ReferenceIdeal.main_v1422) (b := Cert.ReferenceIdeal.main_cst_316) (y := Cert.ReferenceIdeal.main_v1481) (f := open Cert.ReferenceIdeal Cert.ReferenceIdeal.Gen in (fun x v => Host.reduce (FloatOps.minimumf (F := Ideal)) x v reducesTo_S2048x1_S_d0_1 h_S_)) (ha := ⟨by decide, rfl⟩) (hb := ⟨by decide, rfl⟩) (hy := ⟨by decide, rfl⟩)
  rw [hk, hr, ← c_main_v200__main_v1422 hag hel, ← c_main_cst_64__main_cst_316 hag hel]

theorem c_main_v350__main_v1482 : StableHlo.after Cert.KernelIdeal.Hand.KOps (Cert.KernelIdeal.Hand.Wl (F := Ideal) m ρ c) (Proc.devRef .tc Cert.KernelIdeal.main_v350) = StableHlo.after (Cert.ReferenceIdeal.Hand.ops (F := Ideal)) (StableHlo.launchContents m' c) (Proc.devRef .tc Cert.ReferenceIdeal.main_v1482) := by
  have hk := StableHlo.Ascending.eq_binary Cert.KernelIdeal.Hand.KOps_asc (Cert.KernelIdeal.Hand.Wl m ρ c) (Cert.KernelIdeal.Hand.mem_KOps_st7 (Cert.KernelIdeal.Hand.mem_st_7_20 (List.getElem_mem (l := Cert.KernelIdeal.GenP.hostOps7_20 (F := Ideal)) (n := 8) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part30 (List.getElem_mem (l := Cert.ReferenceIdeal.Hand.ops_part30 (F := Ideal)) (n := 1) (by decide))) rfl rfl rfl (by decide) (by decide) (ha := ⟨by decide, rfl⟩) (hb := ⟨by decide, rfl⟩) (hy := ⟨by decide, rfl⟩)
  rw [hk, hr, ← c_main_v348__main_v1480 hag hel, ← c_main_v349__main_v1481 hag hel]

theorem c_main_v351__main_v1483 : StableHlo.after Cert.KernelIdeal.Hand.KOps (Cert.KernelIdeal.Hand.Wl (F := Ideal) m ρ c) (Proc.devRef .tc Cert.KernelIdeal.main_v351) = StableHlo.after (Cert.ReferenceIdeal.Hand.ops (F := Ideal)) (StableHlo.launchContents m' c) (Proc.devRef .tc Cert.ReferenceIdeal.main_v1483) := by
  have hk := StableHlo.Ascending.eq_unary Cert.KernelIdeal.Hand.KOps_asc (Cert.KernelIdeal.Hand.Wl m ρ c) (Cert.KernelIdeal.Hand.mem_KOps_st7 (Cert.KernelIdeal.Hand.mem_st_7_20 (List.getElem_mem (l := Cert.KernelIdeal.GenP.hostOps7_20 (F := Ideal)) (n := 9) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part30 (List.getElem_mem (l := Cert.ReferenceIdeal.Hand.ops_part30 (F := Ideal)) (n := 2) (by decide))) rfl rfl (by decide) (hx := ⟨by decide, rfl⟩) (hy := ⟨by decide, rfl⟩)
  rw [hk, hr, ← c_main_v350__main_v1482 hag hel]

theorem c_main_v352__main_v1484 : StableHlo.after Cert.KernelIdeal.Hand.KOps (Cert.KernelIdeal.Hand.Wl (F := Ideal) m ρ c) (Proc.devRef .tc Cert.KernelIdeal.main_v352) = StableHlo.after (Cert.ReferenceIdeal.Hand.ops (F := Ideal)) (StableHlo.launchContents m' c) (Proc.devRef .tc Cert.ReferenceIdeal.main_v1484) := by
  have hk := StableHlo.Ascending.eq_binary Cert.KernelIdeal.Hand.KOps_asc (Cert.KernelIdeal.Hand.Wl m ρ c) (Cert.KernelIdeal.Hand.mem_KOps_st7 (Cert.KernelIdeal.Hand.mem_st_7_20 (List.getElem_mem (l := Cert.KernelIdeal.GenP.hostOps7_20 (F := Ideal)) (n := 10) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part30 (List.getElem_mem (l := Cert.ReferenceIdeal.Hand.ops_part30 (F := Ideal)) (n := 3) (by decide))) rfl rfl rfl (by decide) (by decide) (ha := ⟨by decide, rfl⟩) (hb := ⟨by decide, rfl⟩) (hy := ⟨by decide, rfl⟩)
  rw [hk, hr, ← c_main_v347__main_v1479 hag hel, ← c_main_v351__main_v1483 hag hel]

theorem c_main_cst_65__main_cst_317 : StableHlo.after Cert.KernelIdeal.Hand.KOps (Cert.KernelIdeal.Hand.Wl (F := Ideal) m ρ c) (Proc.devRef .tc Cert.KernelIdeal.main_cst_65) = StableHlo.after (Cert.ReferenceIdeal.Hand.ops (F := Ideal)) (StableHlo.launchContents m' c) (Proc.devRef .tc Cert.ReferenceIdeal.main_cst_317) := by
  have hk := StableHlo.Ascending.eq_nullary Cert.KernelIdeal.Hand.KOps_asc (Cert.KernelIdeal.Hand.Wl m ρ c) (Cert.KernelIdeal.Hand.mem_KOps_st7 (Cert.KernelIdeal.Hand.mem_st_7_20 (List.getElem_mem (l := Cert.KernelIdeal.GenP.hostOps7_20 (F := Ideal)) (n := 11) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part30 (List.getElem_mem (l := Cert.ReferenceIdeal.Hand.ops_part30 (F := Ideal)) (n := 4) (by decide))) rfl (hy := ⟨by decide, rfl⟩)
  rw [hk, hr]

theorem c_main_v353__main_v1485 : StableHlo.after Cert.KernelIdeal.Hand.KOps (Cert.KernelIdeal.Hand.Wl (F := Ideal) m ρ c) (Proc.devRef .tc Cert.KernelIdeal.main_v353) = StableHlo.after (Cert.ReferenceIdeal.Hand.ops (F := Ideal)) (StableHlo.launchContents m' c) (Proc.devRef .tc Cert.ReferenceIdeal.main_v1485) := by
  have hk := StableHlo.Ascending.eq_binary Cert.KernelIdeal.Hand.KOps_asc (Cert.KernelIdeal.Hand.Wl m ρ c) (Cert.KernelIdeal.Hand.mem_KOps_st7 (Cert.KernelIdeal.Hand.mem_st_7_20 (List.getElem_mem (l := Cert.KernelIdeal.GenP.hostOps7_20 (F := Ideal)) (n := 12) (by decide)))) rfl rfl rfl (by decide) (by decide) (a := Cert.KernelIdeal.main_v344) (b := Cert.KernelIdeal.main_cst_65) (y := Cert.KernelIdeal.main_v353) (f := open Cert.KernelIdeal Cert.KernelIdeal.Gen in (fun x v => Host.reduce (FloatOps.maximumf (F := Ideal)) x v reducesTo_S2048x2048_S_d0_1 h_S_)) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part30 (List.getElem_mem (l := Cert.ReferenceIdeal.Hand.ops_part30 (F := Ideal)) (n := 5) (by decide))) rfl rfl rfl (by decide) (by decide) (a := Cert.ReferenceIdeal.main_v1476) (b := Cert.ReferenceIdeal.main_cst_317) (y := Cert.ReferenceIdeal.main_v1485) (f := open Cert.ReferenceIdeal Cert.ReferenceIdeal.Gen in (fun x v => Host.reduce (FloatOps.maximumf (F := Ideal)) x v reducesTo_S2048x2048_S_d0_1 h_S_)) (ha := ⟨by decide, rfl⟩) (hb := ⟨by decide, rfl⟩) (hy := ⟨by decide, rfl⟩)
  rw [hk, hr, ← c_main_v344__main_v1476 hag hel, ← c_main_cst_65__main_cst_317 hag hel]

theorem c_main_v354__main_v1486 : StableHlo.after Cert.KernelIdeal.Hand.KOps (Cert.KernelIdeal.Hand.Wl (F := Ideal) m ρ c) (Proc.devRef .tc Cert.KernelIdeal.main_v354) = StableHlo.after (Cert.ReferenceIdeal.Hand.ops (F := Ideal)) (StableHlo.launchContents m' c) (Proc.devRef .tc Cert.ReferenceIdeal.main_v1486) := by
  have hk := StableHlo.Ascending.eq_unary Cert.KernelIdeal.Hand.KOps_asc (Cert.KernelIdeal.Hand.Wl m ρ c) (Cert.KernelIdeal.Hand.mem_KOps_st7 (Cert.KernelIdeal.Hand.mem_st_7_20 (List.getElem_mem (l := Cert.KernelIdeal.GenP.hostOps7_20 (F := Ideal)) (n := 13) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part30 (List.getElem_mem (l := Cert.ReferenceIdeal.Hand.ops_part30 (F := Ideal)) (n := 6) (by decide))) rfl rfl (by decide) (hx := ⟨by decide, rfl⟩) (hy := ⟨by decide, rfl⟩)
  rw [hk, hr, ← c_main_v353__main_v1485 hag hel]

theorem c_main_v355__main_v1487 : StableHlo.after Cert.KernelIdeal.Hand.KOps (Cert.KernelIdeal.Hand.Wl (F := Ideal) m ρ c) (Proc.devRef .tc Cert.KernelIdeal.main_v355) = StableHlo.after (Cert.ReferenceIdeal.Hand.ops (F := Ideal)) (StableHlo.launchContents m' c) (Proc.devRef .tc Cert.ReferenceIdeal.main_v1487) := by
  have hk := StableHlo.Ascending.eq_binary Cert.KernelIdeal.Hand.KOps_asc (Cert.KernelIdeal.Hand.Wl m ρ c) (Cert.KernelIdeal.Hand.mem_KOps_st7 (Cert.KernelIdeal.Hand.mem_st_7_20 (List.getElem_mem (l := Cert.KernelIdeal.GenP.hostOps7_20 (F := Ideal)) (n := 14) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part30 (List.getElem_mem (l := Cert.ReferenceIdeal.Hand.ops_part30 (F := Ideal)) (n := 7) (by decide))) rfl rfl rfl (by decide) (by decide) (ha := ⟨by decide, rfl⟩) (hb := ⟨by decide, rfl⟩) (hy := ⟨by decide, rfl⟩)
  rw [hk, hr, ← c_main_v352__main_v1484 hag hel, ← c_main_v354__main_v1486 hag hel]

theorem c_main_cst_66__main_cst_318 : StableHlo.after Cert.KernelIdeal.Hand.KOps (Cert.KernelIdeal.Hand.Wl (F := Ideal) m ρ c) (Proc.devRef .tc Cert.KernelIdeal.main_cst_66) = StableHlo.after (Cert.ReferenceIdeal.Hand.ops (F := Ideal)) (StableHlo.launchContents m' c) (Proc.devRef .tc Cert.ReferenceIdeal.main_cst_318) := by
  have hk := StableHlo.Ascending.eq_nullary Cert.KernelIdeal.Hand.KOps_asc (Cert.KernelIdeal.Hand.Wl m ρ c) (Cert.KernelIdeal.Hand.mem_KOps_st7 (Cert.KernelIdeal.Hand.mem_st_7_20 (List.getElem_mem (l := Cert.KernelIdeal.GenP.hostOps7_20 (F := Ideal)) (n := 15) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part30 (List.getElem_mem (l := Cert.ReferenceIdeal.Hand.ops_part30 (F := Ideal)) (n := 8) (by decide))) rfl (hy := ⟨by decide, rfl⟩)
  rw [hk, hr]

theorem c_main_v356__main_v1488 : StableHlo.after Cert.KernelIdeal.Hand.KOps (Cert.KernelIdeal.Hand.Wl (F := Ideal) m ρ c) (Proc.devRef .tc Cert.KernelIdeal.main_v356) = StableHlo.after (Cert.ReferenceIdeal.Hand.ops (F := Ideal)) (StableHlo.launchContents m' c) (Proc.devRef .tc Cert.ReferenceIdeal.main_v1488) := by
  have hk := StableHlo.Ascending.eq_unary Cert.KernelIdeal.Hand.KOps_asc (Cert.KernelIdeal.Hand.Wl m ρ c) (Cert.KernelIdeal.Hand.mem_KOps_st7 (Cert.KernelIdeal.Hand.mem_st_7_20 (List.getElem_mem (l := Cert.KernelIdeal.GenP.hostOps7_20 (F := Ideal)) (n := 16) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part30 (List.getElem_mem (l := Cert.ReferenceIdeal.Hand.ops_part30 (F := Ideal)) (n := 9) (by decide))) rfl rfl (by decide) (hx := ⟨by decide, rfl⟩) (hy := ⟨by decide, rfl⟩)
  rw [hk, hr, ← c_main_cst_66__main_cst_318 hag hel]

theorem c_main_v357__main_v1489 : StableHlo.after Cert.KernelIdeal.Hand.KOps (Cert.KernelIdeal.Hand.Wl (F := Ideal) m ρ c) (Proc.devRef .tc Cert.KernelIdeal.main_v357) = StableHlo.after (Cert.ReferenceIdeal.Hand.ops (F := Ideal)) (StableHlo.launchContents m' c) (Proc.devRef .tc Cert.ReferenceIdeal.main_v1489) := by
  have hk := StableHlo.Ascending.eq_binary Cert.KernelIdeal.Hand.KOps_asc (Cert.KernelIdeal.Hand.Wl m ρ c) (Cert.KernelIdeal.Hand.mem_KOps_st7 (Cert.KernelIdeal.Hand.mem_st_7_20 (List.getElem_mem (l := Cert.KernelIdeal.GenP.hostOps7_20 (F := Ideal)) (n := 17) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part30 (List.getElem_mem (l := Cert.ReferenceIdeal.Hand.ops_part30 (F := Ideal)) (n := 10) (by decide))) rfl rfl rfl (by decide) (by decide) (ha := ⟨by decide, rfl⟩) (hb := ⟨by decide, rfl⟩) (hy := ⟨by decide, rfl⟩)
  rw [hk, hr, ← c_main_v24__main_v1465 hag hel, ← c_main_v356__main_v1488 hag hel]

theorem c_main_v358__main_v1490 : StableHlo.after Cert.KernelIdeal.Hand.KOps (Cert.KernelIdeal.Hand.Wl (F := Ideal) m ρ c) (Proc.devRef .tc Cert.KernelIdeal.main_v358) = StableHlo.after (Cert.ReferenceIdeal.Hand.ops (F := Ideal)) (StableHlo.launchContents m' c) (Proc.devRef .tc Cert.ReferenceIdeal.main_v1490) := by
  have hk := StableHlo.Ascending.eq_unary Cert.KernelIdeal.Hand.KOps_asc (Cert.KernelIdeal.Hand.Wl m ρ c) (Cert.KernelIdeal.Hand.mem_KOps_st7 (Cert.KernelIdeal.Hand.mem_st_7_20 (List.getElem_mem (l := Cert.KernelIdeal.GenP.hostOps7_20 (F := Ideal)) (n := 18) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part30 (List.getElem_mem (l := Cert.ReferenceIdeal.Hand.ops_part30 (F := Ideal)) (n := 11) (by decide))) rfl rfl (by decide) (hx := ⟨by decide, rfl⟩) (hy := ⟨by decide, rfl⟩)
  rw [hk, hr, ← c_main_v355__main_v1487 hag hel]

theorem c_main_v359__main_v1491 : StableHlo.after Cert.KernelIdeal.Hand.KOps (Cert.KernelIdeal.Hand.Wl (F := Ideal) m ρ c) (Proc.devRef .tc Cert.KernelIdeal.main_v359) = StableHlo.after (Cert.ReferenceIdeal.Hand.ops (F := Ideal)) (StableHlo.launchContents m' c) (Proc.devRef .tc Cert.ReferenceIdeal.main_v1491) := by
  have hk := StableHlo.Ascending.eq_binary Cert.KernelIdeal.Hand.KOps_asc (Cert.KernelIdeal.Hand.Wl m ρ c) (Cert.KernelIdeal.Hand.mem_KOps_st7 (Cert.KernelIdeal.Hand.mem_st_7_20 (List.getElem_mem (l := Cert.KernelIdeal.GenP.hostOps7_20 (F := Ideal)) (n := 19) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part30 (List.getElem_mem (l := Cert.ReferenceIdeal.Hand.ops_part30 (F := Ideal)) (n := 12) (by decide))) rfl rfl rfl (by decide) (by decide) (ha := ⟨by decide, rfl⟩) (hb := ⟨by decide, rfl⟩) (hy := ⟨by decide, rfl⟩)
  rw [hk, hr, ← c_main_v344__main_v1476 hag hel, ← c_main_v358__main_v1490 hag hel]

theorem c_main_cst_67__main_cst_319 : StableHlo.after Cert.KernelIdeal.Hand.KOps (Cert.KernelIdeal.Hand.Wl (F := Ideal) m ρ c) (Proc.devRef .tc Cert.KernelIdeal.main_cst_67) = StableHlo.after (Cert.ReferenceIdeal.Hand.ops (F := Ideal)) (StableHlo.launchContents m' c) (Proc.devRef .tc Cert.ReferenceIdeal.main_cst_319) := by
  have hk := StableHlo.Ascending.eq_nullary Cert.KernelIdeal.Hand.KOps_asc (Cert.KernelIdeal.Hand.Wl m ρ c) (Cert.KernelIdeal.Hand.mem_KOps_st7 (Cert.KernelIdeal.Hand.mem_st_7_20 (List.getElem_mem (l := Cert.KernelIdeal.GenP.hostOps7_20 (F := Ideal)) (n := 20) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part30 (List.getElem_mem (l := Cert.ReferenceIdeal.Hand.ops_part30 (F := Ideal)) (n := 13) (by decide))) rfl (hy := ⟨by decide, rfl⟩)
  rw [hk, hr]

theorem c_main_call11_v0__main_call68_v0 : StableHlo.after Cert.KernelIdeal.Hand.KOps (Cert.KernelIdeal.Hand.Wl (F := Ideal) m ρ c) (Proc.devRef .tc Cert.KernelIdeal.main_call11_v0) = StableHlo.after (Cert.ReferenceIdeal.Hand.ops (F := Ideal)) (StableHlo.launchContents m' c) (Proc.devRef .tc Cert.ReferenceIdeal.main_call68_v0) := by
  have hk := StableHlo.Ascending.eq_unary Cert.KernelIdeal.Hand.KOps_asc (Cert.KernelIdeal.Hand.Wl m ρ c) (Cert.KernelIdeal.Hand.mem_KOps_st7 (Cert.KernelIdeal.Hand.mem_st_7_21 (List.getElem_mem (l := Cert.KernelIdeal.GenP.hostOps7_21 (F := Ideal)) (n := 0) (by decide)))) rfl rfl (by decide) (x := Cert.KernelIdeal.main_cst_67) (y := Cert.KernelIdeal.main_call11_v0) (f := open Cert.KernelIdeal Cert.KernelIdeal.Gen in id) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part30 (List.getElem_mem (l := Cert.ReferenceIdeal.Hand.ops_part30 (F := Ideal)) (n := 14) (by decide))) rfl rfl (by decide) (x := Cert.ReferenceIdeal.main_cst_319) (y := Cert.ReferenceIdeal.main_call68_v0) (f := open Cert.ReferenceIdeal Cert.ReferenceIdeal.Gen in id) (hx := ⟨by decide, rfl⟩) (hy := ⟨by decide, rfl⟩)
  rw [hk, hr, ← c_main_cst_67__main_cst_319 hag hel]

theorem c_main_call11_v1__main_call68_v1 : StableHlo.after Cert.KernelIdeal.Hand.KOps (Cert.KernelIdeal.Hand.Wl (F := Ideal) m ρ c) (Proc.devRef .tc Cert.KernelIdeal.main_call11_v1) = StableHlo.after (Cert.ReferenceIdeal.Hand.ops (F := Ideal)) (StableHlo.launchContents m' c) (Proc.devRef .tc Cert.ReferenceIdeal.main_call68_v1) := by
  have hk := StableHlo.Ascending.eq_unary Cert.KernelIdeal.Hand.KOps_asc (Cert.KernelIdeal.Hand.Wl m ρ c) (Cert.KernelIdeal.Hand.mem_KOps_st7 (Cert.KernelIdeal.Hand.mem_st_7_21 (List.getElem_mem (l := Cert.KernelIdeal.GenP.hostOps7_21 (F := Ideal)) (n := 1) (by decide)))) rfl rfl (by decide) (x := Cert.KernelIdeal.main_call11_v0) (y := Cert.KernelIdeal.main_call11_v1) (f := open Cert.KernelIdeal Cert.KernelIdeal.Gen in (broadcastInDim S2048x2048 ![] bcast_S_S2048x2048)) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part30 (List.getElem_mem (l := Cert.ReferenceIdeal.Hand.ops_part30 (F := Ideal)) (n := 15) (by decide))) rfl rfl (by decide) (x := Cert.ReferenceIdeal.main_call68_v0) (y := Cert.ReferenceIdeal.main_call68_v1) (f := open Cert.ReferenceIdeal Cert.ReferenceIdeal.Gen in (broadcastInDim S2048x2048 ![] bcast_S_S2048x2048)) (hx := ⟨by decide, rfl⟩) (hy := ⟨by decide, rfl⟩)
  rw [hk, hr, ← c_main_call11_v0__main_call68_v0 hag hel]

theorem c_main_v360__main_v1492 : StableHlo.after Cert.KernelIdeal.Hand.KOps (Cert.KernelIdeal.Hand.Wl (F := Ideal) m ρ c) (Proc.devRef .tc Cert.KernelIdeal.main_v360) = StableHlo.after (Cert.ReferenceIdeal.Hand.ops (F := Ideal)) (StableHlo.launchContents m' c) (Proc.devRef .tc Cert.ReferenceIdeal.main_v1492) := by
  have hk := StableHlo.Ascending.eq_ternary Cert.KernelIdeal.Hand.KOps_asc (Cert.KernelIdeal.Hand.Wl m ρ c) (Cert.KernelIdeal.Hand.mem_KOps_st7 (Cert.KernelIdeal.Hand.mem_st_7_21 (List.getElem_mem (l := Cert.KernelIdeal.GenP.hostOps7_21 (F := Ideal)) (n := 2) (by decide)))) rfl rfl rfl rfl (by decide) (by decide) (by decide) (c := Cert.KernelIdeal.main_v357) (a := Cert.KernelIdeal.main_v359) (b := Cert.KernelIdeal.main_call11_v1) (y := Cert.KernelIdeal.main_v360) (f := (select : (⟨Cert.KernelIdeal.S2048x2048, .i1⟩ : BufTy).Contents (Elt Ideal) → (⟨Cert.KernelIdeal.S2048x2048, .f32⟩ : BufTy).Contents (Elt Ideal) → (⟨Cert.KernelIdeal.S2048x2048, .f32⟩ : BufTy).Contents (Elt Ideal) → (⟨Cert.KernelIdeal.S2048x2048, .f32⟩ : BufTy).Contents (Elt Ideal))) (hc := ⟨by decide, rfl⟩) (ha := ⟨by decide, rfl⟩) (hb := ⟨by decide, rfl⟩) (hy := ⟨by decide, rfl⟩)
  have hr := StableHlo.Ascending.eq_ternary (Cert.ReferenceIdeal.Hand.ops_asc (F := Ideal)) (StableHlo.launchContents m' c) (Cert.ReferenceIdeal.Hand.mem_ops_part30 (List.getElem_mem (l := Cert.ReferenceIdeal.Hand.ops_part30 (F := Ideal)) (n := 16) (by decide))) rfl rfl rfl rfl (by decide) (by decide) (by decide) (c := Cert.ReferenceIdeal.main_v1489) (a := Cert.ReferenceIdeal.main_v1491) (b := Cert.ReferenceIdeal.main_call68_v1) (y := Cert.ReferenceIdeal.main_v1492) (f := (select : (⟨Cert.ReferenceIdeal.S2048x2048, .i1⟩ : BufTy).Contents (Elt Ideal) → (⟨Cert.ReferenceIdeal.S2048x2048, .f32⟩ : BufTy).Contents (Elt Ideal) → (⟨Cert.ReferenceIdeal.S2048x2048, .f32⟩ : BufTy).Contents (Elt Ideal) → (⟨Cert.ReferenceIdeal.S2048x2048, .f32⟩ : BufTy).Contents (Elt Ideal))) (hc := ⟨by decide, rfl⟩) (ha := ⟨by decide, rfl⟩) (hb := ⟨by decide, rfl⟩) (hy := ⟨by decide, rfl⟩)
  rw [hk, hr, ← c_main_v357__main_v1489 hag hel, ← c_main_v359__main_v1491 hag hel, ← c_main_call11_v1__main_call68_v1 hag hel]

theorem c_main_cst_68__main_cst_320 : StableHlo.after Cert.KernelIdeal.Hand.KOps (Cert.KernelIdeal.Hand.Wl (F := Ideal) m ρ c) (Proc.devRef .tc Cert.KernelIdeal.main_cst_68) = StableHlo.after (Cert.ReferenceIdeal.Hand.ops (F := Ideal)) (StableHlo.launchContents m' c) (Proc.devRef .tc Cert.ReferenceIdeal.main_cst_320) := by
  have hk := StableHlo.Ascending.eq_nullary Cert.KernelIdeal.Hand.KOps_asc (Cert.KernelIdeal.Hand.Wl m ρ c) (Cert.KernelIdeal.Hand.mem_KOps_st7 (Cert.KernelIdeal.Hand.mem_st_7_22 (List.getElem_mem (l := Cert.KernelIdeal.GenP.hostOps7_22 (F := Ideal)) (n := 0) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part30 (List.getElem_mem (l := Cert.ReferenceIdeal.Hand.ops_part30 (F := Ideal)) (n := 17) (by decide))) rfl (hy := ⟨by decide, rfl⟩)
  rw [hk, hr]

theorem c_main_v361__main_v1493 : StableHlo.after Cert.KernelIdeal.Hand.KOps (Cert.KernelIdeal.Hand.Wl (F := Ideal) m ρ c) (Proc.devRef .tc Cert.KernelIdeal.main_v361) = StableHlo.after (Cert.ReferenceIdeal.Hand.ops (F := Ideal)) (StableHlo.launchContents m' c) (Proc.devRef .tc Cert.ReferenceIdeal.main_v1493) := by
  have hk := StableHlo.Ascending.eq_binary Cert.KernelIdeal.Hand.KOps_asc (Cert.KernelIdeal.Hand.Wl m ρ c) (Cert.KernelIdeal.Hand.mem_KOps_st7 (Cert.KernelIdeal.Hand.mem_st_7_22 (List.getElem_mem (l := Cert.KernelIdeal.GenP.hostOps7_22 (F := Ideal)) (n := 1) (by decide)))) rfl rfl rfl (by decide) (by decide) (a := Cert.KernelIdeal.main_v360) (b := Cert.KernelIdeal.main_cst_68) (y := Cert.KernelIdeal.main_v361) (f := open Cert.KernelIdeal Cert.KernelIdeal.Gen in (fun x v => Host.reduce (FloatOps.maximumf (F := Ideal)) x v reducesTo_S2048x2048_S2048_d1 h_S_)) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part30 (List.getElem_mem (l := Cert.ReferenceIdeal.Hand.ops_part30 (F := Ideal)) (n := 18) (by decide))) rfl rfl rfl (by decide) (by decide) (a := Cert.ReferenceIdeal.main_v1492) (b := Cert.ReferenceIdeal.main_cst_320) (y := Cert.ReferenceIdeal.main_v1493) (f := open Cert.ReferenceIdeal Cert.ReferenceIdeal.Gen in (fun x v => Host.reduce (FloatOps.maximumf (F := Ideal)) x v reducesTo_S2048x2048_S2048_d1 h_S_)) (ha := ⟨by decide, rfl⟩) (hb := ⟨by decide, rfl⟩) (hy := ⟨by decide, rfl⟩)
  rw [hk, hr, ← c_main_v360__main_v1492 hag hel, ← c_main_cst_68__main_cst_320 hag hel]

theorem c_main_cst_69__main_cst_321 : StableHlo.after Cert.KernelIdeal.Hand.KOps (Cert.KernelIdeal.Hand.Wl (F := Ideal) m ρ c) (Proc.devRef .tc Cert.KernelIdeal.main_cst_69) = StableHlo.after (Cert.ReferenceIdeal.Hand.ops (F := Ideal)) (StableHlo.launchContents m' c) (Proc.devRef .tc Cert.ReferenceIdeal.main_cst_321) := by
  have hk := StableHlo.Ascending.eq_nullary Cert.KernelIdeal.Hand.KOps_asc (Cert.KernelIdeal.Hand.Wl m ρ c) (Cert.KernelIdeal.Hand.mem_KOps_st7 (Cert.KernelIdeal.Hand.mem_st_7_22 (List.getElem_mem (l := Cert.KernelIdeal.GenP.hostOps7_22 (F := Ideal)) (n := 2) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part30 (List.getElem_mem (l := Cert.ReferenceIdeal.Hand.ops_part30 (F := Ideal)) (n := 19) (by decide))) rfl (hy := ⟨by decide, rfl⟩)
  rw [hk, hr]

theorem c_main_v362__main_v1494 : StableHlo.after Cert.KernelIdeal.Hand.KOps (Cert.KernelIdeal.Hand.Wl (F := Ideal) m ρ c) (Proc.devRef .tc Cert.KernelIdeal.main_v362) = StableHlo.after (Cert.ReferenceIdeal.Hand.ops (F := Ideal)) (StableHlo.launchContents m' c) (Proc.devRef .tc Cert.ReferenceIdeal.main_v1494) := by
  have hk := StableHlo.Ascending.eq_unary Cert.KernelIdeal.Hand.KOps_asc (Cert.KernelIdeal.Hand.Wl m ρ c) (Cert.KernelIdeal.Hand.mem_KOps_st7 (Cert.KernelIdeal.Hand.mem_st_7_22 (List.getElem_mem (l := Cert.KernelIdeal.GenP.hostOps7_22 (F := Ideal)) (n := 3) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part30 (List.getElem_mem (l := Cert.ReferenceIdeal.Hand.ops_part30 (F := Ideal)) (n := 20) (by decide))) rfl rfl (by decide) (hx := ⟨by decide, rfl⟩) (hy := ⟨by decide, rfl⟩)
  rw [hk, hr, ← c_main_cst_69__main_cst_321 hag hel]

theorem c_main_v363__main_v1495 : StableHlo.after Cert.KernelIdeal.Hand.KOps (Cert.KernelIdeal.Hand.Wl (F := Ideal) m ρ c) (Proc.devRef .tc Cert.KernelIdeal.main_v363) = StableHlo.after (Cert.ReferenceIdeal.Hand.ops (F := Ideal)) (StableHlo.launchContents m' c) (Proc.devRef .tc Cert.ReferenceIdeal.main_v1495) := by
  have hk := StableHlo.Ascending.eq_binary Cert.KernelIdeal.Hand.KOps_asc (Cert.KernelIdeal.Hand.Wl m ρ c) (Cert.KernelIdeal.Hand.mem_KOps_st7 (Cert.KernelIdeal.Hand.mem_st_7_22 (List.getElem_mem (l := Cert.KernelIdeal.GenP.hostOps7_22 (F := Ideal)) (n := 4) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part30 (List.getElem_mem (l := Cert.ReferenceIdeal.Hand.ops_part30 (F := Ideal)) (n := 21) (by decide))) rfl rfl rfl (by decide) (by decide) (ha := ⟨by decide, rfl⟩) (hb := ⟨by decide, rfl⟩) (hy := ⟨by decide, rfl⟩)
  rw [hk, hr, ← c_main_v362__main_v1494 hag hel, ← c_main_v361__main_v1493 hag hel]

theorem c_main_v364__main_v1496 : StableHlo.after Cert.KernelIdeal.Hand.KOps (Cert.KernelIdeal.Hand.Wl (F := Ideal) m ρ c) (Proc.devRef .tc Cert.KernelIdeal.main_v364) = StableHlo.after (Cert.ReferenceIdeal.Hand.ops (F := Ideal)) (StableHlo.launchContents m' c) (Proc.devRef .tc Cert.ReferenceIdeal.main_v1496) := by
  have hk := StableHlo.Ascending.eq_unary Cert.KernelIdeal.Hand.KOps_asc (Cert.KernelIdeal.Hand.Wl m ρ c) (Cert.KernelIdeal.Hand.mem_KOps_st7 (Cert.KernelIdeal.Hand.mem_st_7_22 (List.getElem_mem (l := Cert.KernelIdeal.GenP.hostOps7_22 (F := Ideal)) (n := 5) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part30 (List.getElem_mem (l := Cert.ReferenceIdeal.Hand.ops_part30 (F := Ideal)) (n := 22) (by decide))) rfl rfl (by decide) (hx := ⟨by decide, rfl⟩) (hy := ⟨by decide, rfl⟩)
  rw [hk, hr, ← c_main_v363__main_v1495 hag hel]

theorem c_main_v365__main_v1497 : StableHlo.after Cert.KernelIdeal.Hand.KOps (Cert.KernelIdeal.Hand.Wl (F := Ideal) m ρ c) (Proc.devRef .tc Cert.KernelIdeal.main_v365) = StableHlo.after (Cert.ReferenceIdeal.Hand.ops (F := Ideal)) (StableHlo.launchContents m' c) (Proc.devRef .tc Cert.ReferenceIdeal.main_v1497) := by
  have hk := StableHlo.Ascending.eq_unary Cert.KernelIdeal.Hand.KOps_asc (Cert.KernelIdeal.Hand.Wl m ρ c) (Cert.KernelIdeal.Hand.mem_KOps_st7 (Cert.KernelIdeal.Hand.mem_st_7_22 (List.getElem_mem (l := Cert.KernelIdeal.GenP.hostOps7_22 (F := Ideal)) (n := 6) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part30 (List.getElem_mem (l := Cert.ReferenceIdeal.Hand.ops_part30 (F := Ideal)) (n := 23) (by decide))) rfl rfl (by decide) (hx := ⟨by decide, rfl⟩) (hy := ⟨by decide, rfl⟩)
  rw [hk, hr, ← c_main_v364__main_v1496 hag hel]

theorem c_main_v366__main_v1498 : StableHlo.after Cert.KernelIdeal.Hand.KOps (Cert.KernelIdeal.Hand.Wl (F := Ideal) m ρ c) (Proc.devRef .tc Cert.KernelIdeal.main_v366) = StableHlo.after (Cert.ReferenceIdeal.Hand.ops (F := Ideal)) (StableHlo.launchContents m' c) (Proc.devRef .tc Cert.ReferenceIdeal.main_v1498) := by
  have hk := StableHlo.Ascending.eq_binary Cert.KernelIdeal.Hand.KOps_asc (Cert.KernelIdeal.Hand.Wl m ρ c) (Cert.KernelIdeal.Hand.mem_KOps_st7 (Cert.KernelIdeal.Hand.mem_st_7_22 (List.getElem_mem (l := Cert.KernelIdeal.GenP.hostOps7_22 (F := Ideal)) (n := 7) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part30 (List.getElem_mem (l := Cert.ReferenceIdeal.Hand.ops_part30 (F := Ideal)) (n := 24) (by decide))) rfl rfl rfl (by decide) (by decide) (ha := ⟨by decide, rfl⟩) (hb := ⟨by decide, rfl⟩) (hy := ⟨by decide, rfl⟩)
  rw [hk, hr, ← c_main_v360__main_v1492 hag hel, ← c_main_v365__main_v1497 hag hel]

end Cert.Value

end
-- ==== Proof.Val.C011.lean ====
/- Steps C011 of the value claim's chain: for each listed pair, the kernel program's buffer and its reference twin hold equal contents at the two programs' final
   valuations — the two operations are the same function (read off the two operation lists) of operands already paired. A table; written by: bun scratch/corr.js 60 -/
import proofs.«146970_j35948876268088_1_alg».proof.Proof.Val.Seed
import proofs.«146970_j35948876268088_1_alg».proof.Proof.KI.Dots
import Mathlib.Tactic.FinCases
import proofs.«146970_j35948876268088_1_alg».proof.Proof.Val.C000
import proofs.«146970_j35948876268088_1_alg».proof.Proof.Val.C001
import proofs.«146970_j35948876268088_1_alg».proof.Proof.Val.C003
import proofs.«146970_j35948876268088_1_alg».proof.Proof.Val.C005
import proofs.«146970_j35948876268088_1_alg».proof.Proof.Val.C010

set_option maxRecDepth 16384

noncomputable section

namespace Cert.Value

open Idealize.ShloMosaic Idealize.ShloMosaic.TcCoe Idealize.SL.Sem

variable {m : (ℓ : Loc Cert.KernelIdeal.nD Cert.KernelIdeal.τ Cert.KernelIdeal.sig) → Buf (Elt Ideal) ℓ} {ρ : Dev Cert.KernelIdeal.nD → PrngReg}
  {m' : (ℓ : Loc Cert.ReferenceIdeal.nD Cert.ReferenceIdeal.τ Cert.ReferenceIdeal.sig) → Buf (Elt Ideal) ℓ} {c : Dev Cert.KernelIdeal.nD} (hag : Agree m m') (hel : Els m' c)
include hag hel

theorem c_main_v367__main_v1499 : StableHlo.after Cert.KernelIdeal.Hand.KOps (Cert.KernelIdeal.Hand.Wl (F := Ideal) m ρ c) (Proc.devRef .tc Cert.KernelIdeal.main_v367) = StableHlo.after (Cert.ReferenceIdeal.Hand.ops (F := Ideal)) (StableHlo.launchContents m' c) (Proc.devRef .tc Cert.ReferenceIdeal.main_v1499) := by
  have hk := StableHlo.Ascending.eq_unary Cert.KernelIdeal.Hand.KOps_asc (Cert.KernelIdeal.Hand.Wl m ρ c) (Cert.KernelIdeal.Hand.mem_KOps_st7 (Cert.KernelIdeal.Hand.mem_st_7_22 (List.getElem_mem (l := Cert.KernelIdeal.GenP.hostOps7_22 (F := Ideal)) (n := 8) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part30 (List.getElem_mem (l := Cert.ReferenceIdeal.Hand.ops_part30 (F := Ideal)) (n := 25) (by decide))) rfl rfl (by decide) (hx := ⟨by decide, rfl⟩) (hy := ⟨by decide, rfl⟩)
  rw [hk, hr, ← c_main_v366__main_v1498 hag hel]

theorem c_main_cst_70__main_cst_322 : StableHlo.after Cert.KernelIdeal.Hand.KOps (Cert.KernelIdeal.Hand.Wl (F := Ideal) m ρ c) (Proc.devRef .tc Cert.KernelIdeal.main_cst_70) = StableHlo.after (Cert.ReferenceIdeal.Hand.ops (F := Ideal)) (StableHlo.launchContents m' c) (Proc.devRef .tc Cert.ReferenceIdeal.main_cst_322) := by
  have hk := StableHlo.Ascending.eq_nullary Cert.KernelIdeal.Hand.KOps_asc (Cert.KernelIdeal.Hand.Wl m ρ c) (Cert.KernelIdeal.Hand.mem_KOps_st7 (Cert.KernelIdeal.Hand.mem_st_7_22 (List.getElem_mem (l := Cert.KernelIdeal.GenP.hostOps7_22 (F := Ideal)) (n := 9) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part30 (List.getElem_mem (l := Cert.ReferenceIdeal.Hand.ops_part30 (F := Ideal)) (n := 26) (by decide))) rfl (hy := ⟨by decide, rfl⟩)
  rw [hk, hr]

theorem c_main_v368__main_v1500 : StableHlo.after Cert.KernelIdeal.Hand.KOps (Cert.KernelIdeal.Hand.Wl (F := Ideal) m ρ c) (Proc.devRef .tc Cert.KernelIdeal.main_v368) = StableHlo.after (Cert.ReferenceIdeal.Hand.ops (F := Ideal)) (StableHlo.launchContents m' c) (Proc.devRef .tc Cert.ReferenceIdeal.main_v1500) := by
  have hk := StableHlo.Ascending.eq_binary Cert.KernelIdeal.Hand.KOps_asc (Cert.KernelIdeal.Hand.Wl m ρ c) (Cert.KernelIdeal.Hand.mem_KOps_st7 (Cert.KernelIdeal.Hand.mem_st_7_22 (List.getElem_mem (l := Cert.KernelIdeal.GenP.hostOps7_22 (F := Ideal)) (n := 10) (by decide)))) rfl rfl rfl (by decide) (by decide) (a := Cert.KernelIdeal.main_v367) (b := Cert.KernelIdeal.main_cst_70) (y := Cert.KernelIdeal.main_v368) (f := open Cert.KernelIdeal Cert.KernelIdeal.Gen in (fun x v => Host.reduceAdd (F := Ideal) x v reducesTo_S2048x2048_S2048_d1 h_S_)) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part30 (List.getElem_mem (l := Cert.ReferenceIdeal.Hand.ops_part30 (F := Ideal)) (n := 27) (by decide))) rfl rfl rfl (by decide) (by decide) (a := Cert.ReferenceIdeal.main_v1499) (b := Cert.ReferenceIdeal.main_cst_322) (y := Cert.ReferenceIdeal.main_v1500) (f := open Cert.ReferenceIdeal Cert.ReferenceIdeal.Gen in (fun x v => Host.reduceAdd (F := Ideal) x v reducesTo_S2048x2048_S2048_d1 h_S_)) (ha := ⟨by decide, rfl⟩) (hb := ⟨by decide, rfl⟩) (hy := ⟨by decide, rfl⟩)
  rw [hk, hr, ← c_main_v367__main_v1499 hag hel, ← c_main_cst_70__main_cst_322 hag hel]

theorem c_main_v369__main_v1501 : StableHlo.after Cert.KernelIdeal.Hand.KOps (Cert.KernelIdeal.Hand.Wl (F := Ideal) m ρ c) (Proc.devRef .tc Cert.KernelIdeal.main_v369) = StableHlo.after (Cert.ReferenceIdeal.Hand.ops (F := Ideal)) (StableHlo.launchContents m' c) (Proc.devRef .tc Cert.ReferenceIdeal.main_v1501) := by
  have hk := StableHlo.Ascending.eq_unary Cert.KernelIdeal.Hand.KOps_asc (Cert.KernelIdeal.Hand.Wl m ρ c) (Cert.KernelIdeal.Hand.mem_KOps_st7 (Cert.KernelIdeal.Hand.mem_st_7_22 (List.getElem_mem (l := Cert.KernelIdeal.GenP.hostOps7_22 (F := Ideal)) (n := 11) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part30 (List.getElem_mem (l := Cert.ReferenceIdeal.Hand.ops_part30 (F := Ideal)) (n := 28) (by decide))) rfl rfl (by decide) (hx := ⟨by decide, rfl⟩) (hy := ⟨by decide, rfl⟩)
  rw [hk, hr, ← c_main_v368__main_v1500 hag hel]

theorem c_main_v370__main_v1502 : StableHlo.after Cert.KernelIdeal.Hand.KOps (Cert.KernelIdeal.Hand.Wl (F := Ideal) m ρ c) (Proc.devRef .tc Cert.KernelIdeal.main_v370) = StableHlo.after (Cert.ReferenceIdeal.Hand.ops (F := Ideal)) (StableHlo.launchContents m' c) (Proc.devRef .tc Cert.ReferenceIdeal.main_v1502) := by
  have hk := StableHlo.Ascending.eq_unary Cert.KernelIdeal.Hand.KOps_asc (Cert.KernelIdeal.Hand.Wl m ρ c) (Cert.KernelIdeal.Hand.mem_KOps_st7 (Cert.KernelIdeal.Hand.mem_st_7_22 (List.getElem_mem (l := Cert.KernelIdeal.GenP.hostOps7_22 (F := Ideal)) (n := 12) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part30 (List.getElem_mem (l := Cert.ReferenceIdeal.Hand.ops_part30 (F := Ideal)) (n := 29) (by decide))) rfl rfl (by decide) (hx := ⟨by decide, rfl⟩) (hy := ⟨by decide, rfl⟩)
  rw [hk, hr, ← c_main_v369__main_v1501 hag hel]

theorem c_main_v371__main_v1503 : StableHlo.after Cert.KernelIdeal.Hand.KOps (Cert.KernelIdeal.Hand.Wl (F := Ideal) m ρ c) (Proc.devRef .tc Cert.KernelIdeal.main_v371) = StableHlo.after (Cert.ReferenceIdeal.Hand.ops (F := Ideal)) (StableHlo.launchContents m' c) (Proc.devRef .tc Cert.ReferenceIdeal.main_v1503) := by
  have hk := StableHlo.Ascending.eq_binary Cert.KernelIdeal.Hand.KOps_asc (Cert.KernelIdeal.Hand.Wl m ρ c) (Cert.KernelIdeal.Hand.mem_KOps_st7 (Cert.KernelIdeal.Hand.mem_st_7_22 (List.getElem_mem (l := Cert.KernelIdeal.GenP.hostOps7_22 (F := Ideal)) (n := 13) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part30 (List.getElem_mem (l := Cert.ReferenceIdeal.Hand.ops_part30 (F := Ideal)) (n := 30) (by decide))) rfl rfl rfl (by decide) (by decide) (ha := ⟨by decide, rfl⟩) (hb := ⟨by decide, rfl⟩) (hy := ⟨by decide, rfl⟩)
  rw [hk, hr, ← c_main_v367__main_v1499 hag hel, ← c_main_v370__main_v1502 hag hel]

theorem c_main_v372__main_v1504 : StableHlo.after Cert.KernelIdeal.Hand.KOps (Cert.KernelIdeal.Hand.Wl (F := Ideal) m ρ c) (Proc.devRef .tc Cert.KernelIdeal.main_v372) = StableHlo.after (Cert.ReferenceIdeal.Hand.ops (F := Ideal)) (StableHlo.launchContents m' c) (Proc.devRef .tc Cert.ReferenceIdeal.main_v1504) := by
  have hk := StableHlo.Ascending.eq_unary Cert.KernelIdeal.Hand.KOps_asc (Cert.KernelIdeal.Hand.Wl m ρ c) (Cert.KernelIdeal.Hand.mem_KOps_st7 (Cert.KernelIdeal.Hand.mem_st_7_22 (List.getElem_mem (l := Cert.KernelIdeal.GenP.hostOps7_22 (F := Ideal)) (n := 14) (by decide)))) rfl rfl (by decide) (x := Cert.KernelIdeal.main_v371) (y := Cert.KernelIdeal.main_v372) (f := open Cert.KernelIdeal Cert.KernelIdeal.Gen in (transpose S2048x2048 [1, 0] · transposes_S2048x2048_S2048x2048_1_0)) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part30 (List.getElem_mem (l := Cert.ReferenceIdeal.Hand.ops_part30 (F := Ideal)) (n := 31) (by decide))) rfl rfl (by decide) (x := Cert.ReferenceIdeal.main_v1503) (y := Cert.ReferenceIdeal.main_v1504) (f := open Cert.ReferenceIdeal Cert.ReferenceIdeal.Gen in (transpose S2048x2048 [1, 0] · transposes_S2048x2048_S2048x2048_1_0)) (hx := ⟨by decide, rfl⟩) (hy := ⟨by decide, rfl⟩)
  rw [hk, hr, ← c_main_v371__main_v1503 hag hel]

theorem c_main_v373__main_v1505 : StableHlo.after Cert.KernelIdeal.Hand.KOps (Cert.KernelIdeal.Hand.Wl (F := Ideal) m ρ c) (Proc.devRef .tc Cert.KernelIdeal.main_v373) = StableHlo.after (Cert.ReferenceIdeal.Hand.ops (F := Ideal)) (StableHlo.launchContents m' c) (Proc.devRef .tc Cert.ReferenceIdeal.main_v1505) := by
  have hk := StableHlo.Ascending.eq_binary Cert.KernelIdeal.Hand.KOps_asc (Cert.KernelIdeal.Hand.Wl m ρ c) (Cert.KernelIdeal.Hand.mem_KOps_st7 (Cert.KernelIdeal.Hand.mem_st_7_22 (List.getElem_mem (l := Cert.KernelIdeal.GenP.hostOps7_22 (F := Ideal)) (n := 15) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part30 (List.getElem_mem (l := Cert.ReferenceIdeal.Hand.ops_part30 (F := Ideal)) (n := 32) (by decide))) rfl rfl rfl (by decide) (by decide) (ha := ⟨by decide, rfl⟩) (hb := ⟨by decide, rfl⟩) (hy := ⟨by decide, rfl⟩)
  rw [hk, hr, ← c_main_v372__main_v1504 hag hel, ← c_main_v333__main_v1464 hag hel]
  rfl

theorem c_main_call12_cst__main_call69_cst : StableHlo.after Cert.KernelIdeal.Hand.KOps (Cert.KernelIdeal.Hand.Wl (F := Ideal) m ρ c) (Proc.devRef .tc Cert.KernelIdeal.main_call12_cst) = StableHlo.after (Cert.ReferenceIdeal.Hand.ops (F := Ideal)) (StableHlo.launchContents m' c) (Proc.devRef .tc Cert.ReferenceIdeal.main_call69_cst) := by
  have hk := StableHlo.Ascending.eq_nullary Cert.KernelIdeal.Hand.KOps_asc (Cert.KernelIdeal.Hand.Wl m ρ c) (Cert.KernelIdeal.Hand.mem_KOps_st7 (Cert.KernelIdeal.Hand.mem_st_7_23 (List.getElem_mem (l := Cert.KernelIdeal.GenP.hostOps7_23 (F := Ideal)) (n := 0) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part30 (List.getElem_mem (l := Cert.ReferenceIdeal.Hand.ops_part30 (F := Ideal)) (n := 33) (by decide))) rfl (hy := ⟨by decide, rfl⟩)
  rw [hk, hr]

theorem c_main_call12_v0__main_call69_v0 : StableHlo.after Cert.KernelIdeal.Hand.KOps (Cert.KernelIdeal.Hand.Wl (F := Ideal) m ρ c) (Proc.devRef .tc Cert.KernelIdeal.main_call12_v0) = StableHlo.after (Cert.ReferenceIdeal.Hand.ops (F := Ideal)) (StableHlo.launchContents m' c) (Proc.devRef .tc Cert.ReferenceIdeal.main_call69_v0) := by
  have hk := StableHlo.Ascending.eq_unary Cert.KernelIdeal.Hand.KOps_asc (Cert.KernelIdeal.Hand.Wl m ρ c) (Cert.KernelIdeal.Hand.mem_KOps_st7 (Cert.KernelIdeal.Hand.mem_st_7_23 (List.getElem_mem (l := Cert.KernelIdeal.GenP.hostOps7_23 (F := Ideal)) (n := 1) (by decide)))) rfl rfl (by decide) (x := Cert.KernelIdeal.main_call12_cst) (y := Cert.KernelIdeal.main_call12_v0) (f := open Cert.KernelIdeal Cert.KernelIdeal.Gen in (broadcastInDim S2048x8 ![] bcast_S_S2048x8)) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part30 (List.getElem_mem (l := Cert.ReferenceIdeal.Hand.ops_part30 (F := Ideal)) (n := 34) (by decide))) rfl rfl (by decide) (x := Cert.ReferenceIdeal.main_call69_cst) (y := Cert.ReferenceIdeal.main_call69_v0) (f := open Cert.ReferenceIdeal Cert.ReferenceIdeal.Gen in (broadcastInDim S2048x8 ![] bcast_S_S2048x8)) (hx := ⟨by decide, rfl⟩) (hy := ⟨by decide, rfl⟩)
  rw [hk, hr, ← c_main_call12_cst__main_call69_cst hag hel]

theorem c_main_call12_v1__main_call69_v1 : StableHlo.after Cert.KernelIdeal.Hand.KOps (Cert.KernelIdeal.Hand.Wl (F := Ideal) m ρ c) (Proc.devRef .tc Cert.KernelIdeal.main_call12_v1) = StableHlo.after (Cert.ReferenceIdeal.Hand.ops (F := Ideal)) (StableHlo.launchContents m' c) (Proc.devRef .tc Cert.ReferenceIdeal.main_call69_v1) := by
  have hk := StableHlo.Ascending.eq_binary Cert.KernelIdeal.Hand.KOps_asc (Cert.KernelIdeal.Hand.Wl m ρ c) (Cert.KernelIdeal.Hand.mem_KOps_st7 (Cert.KernelIdeal.Hand.mem_st_7_23 (List.getElem_mem (l := Cert.KernelIdeal.GenP.hostOps7_23 (F := Ideal)) (n := 2) (by decide)))) rfl rfl rfl (by decide) (by decide) (a := Cert.KernelIdeal.main_v373) (b := Cert.KernelIdeal.main_call12_v0) (y := Cert.KernelIdeal.main_call12_v1) (f := open Cert.KernelIdeal Cert.KernelIdeal.Gen in (cmpf (F := Ideal) .ogt)) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part30 (List.getElem_mem (l := Cert.ReferenceIdeal.Hand.ops_part30 (F := Ideal)) (n := 35) (by decide))) rfl rfl rfl (by decide) (by decide) (a := Cert.ReferenceIdeal.main_v1505) (b := Cert.ReferenceIdeal.main_call69_v0) (y := Cert.ReferenceIdeal.main_call69_v1) (f := open Cert.ReferenceIdeal Cert.ReferenceIdeal.Gen in (cmpf (F := Ideal) .ogt)) (ha := ⟨by decide, rfl⟩) (hb := ⟨by decide, rfl⟩) (hy := ⟨by decide, rfl⟩)
  rw [hk, hr, ← c_main_v373__main_v1505 hag hel, ← c_main_call12_v0__main_call69_v0 hag hel]

theorem c_main_call12_cst_0__main_call69_cst_0 : StableHlo.after Cert.KernelIdeal.Hand.KOps (Cert.KernelIdeal.Hand.Wl (F := Ideal) m ρ c) (Proc.devRef .tc Cert.KernelIdeal.main_call12_cst_0) = StableHlo.after (Cert.ReferenceIdeal.Hand.ops (F := Ideal)) (StableHlo.launchContents m' c) (Proc.devRef .tc Cert.ReferenceIdeal.main_call69_cst_0) := by
  have hk := StableHlo.Ascending.eq_nullary Cert.KernelIdeal.Hand.KOps_asc (Cert.KernelIdeal.Hand.Wl m ρ c) (Cert.KernelIdeal.Hand.mem_KOps_st7 (Cert.KernelIdeal.Hand.mem_st_7_23 (List.getElem_mem (l := Cert.KernelIdeal.GenP.hostOps7_23 (F := Ideal)) (n := 3) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part30 (List.getElem_mem (l := Cert.ReferenceIdeal.Hand.ops_part30 (F := Ideal)) (n := 36) (by decide))) rfl (hy := ⟨by decide, rfl⟩)
  rw [hk, hr]

theorem c_main_call12_v2__main_call69_v2 : StableHlo.after Cert.KernelIdeal.Hand.KOps (Cert.KernelIdeal.Hand.Wl (F := Ideal) m ρ c) (Proc.devRef .tc Cert.KernelIdeal.main_call12_v2) = StableHlo.after (Cert.ReferenceIdeal.Hand.ops (F := Ideal)) (StableHlo.launchContents m' c) (Proc.devRef .tc Cert.ReferenceIdeal.main_call69_v2) := by
  have hk := StableHlo.Ascending.eq_unary Cert.KernelIdeal.Hand.KOps_asc (Cert.KernelIdeal.Hand.Wl m ρ c) (Cert.KernelIdeal.Hand.mem_KOps_st7 (Cert.KernelIdeal.Hand.mem_st_7_23 (List.getElem_mem (l := Cert.KernelIdeal.GenP.hostOps7_23 (F := Ideal)) (n := 4) (by decide)))) rfl rfl (by decide) (x := Cert.KernelIdeal.main_call12_cst_0) (y := Cert.KernelIdeal.main_call12_v2) (f := open Cert.KernelIdeal Cert.KernelIdeal.Gen in (broadcastInDim S2048x8 ![] bcast_S_S2048x8)) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part30 (List.getElem_mem (l := Cert.ReferenceIdeal.Hand.ops_part30 (F := Ideal)) (n := 37) (by decide))) rfl rfl (by decide) (x := Cert.ReferenceIdeal.main_call69_cst_0) (y := Cert.ReferenceIdeal.main_call69_v2) (f := open Cert.ReferenceIdeal Cert.ReferenceIdeal.Gen in (broadcastInDim S2048x8 ![] bcast_S_S2048x8)) (hx := ⟨by decide, rfl⟩) (hy := ⟨by decide, rfl⟩)
  rw [hk, hr, ← c_main_call12_cst_0__main_call69_cst_0 hag hel]

theorem c_main_call12_v3__main_call69_v3 : StableHlo.after Cert.KernelIdeal.Hand.KOps (Cert.KernelIdeal.Hand.Wl (F := Ideal) m ρ c) (Proc.devRef .tc Cert.KernelIdeal.main_call12_v3) = StableHlo.after (Cert.ReferenceIdeal.Hand.ops (F := Ideal)) (StableHlo.launchContents m' c) (Proc.devRef .tc Cert.ReferenceIdeal.main_call69_v3) := by
  have hk := StableHlo.Ascending.eq_binary Cert.KernelIdeal.Hand.KOps_asc (Cert.KernelIdeal.Hand.Wl m ρ c) (Cert.KernelIdeal.Hand.mem_KOps_st7 (Cert.KernelIdeal.Hand.mem_st_7_23 (List.getElem_mem (l := Cert.KernelIdeal.GenP.hostOps7_23 (F := Ideal)) (n := 5) (by decide)))) rfl rfl rfl (by decide) (by decide) (a := Cert.KernelIdeal.main_v373) (b := Cert.KernelIdeal.main_call12_v2) (y := Cert.KernelIdeal.main_call12_v3) (f := open Cert.KernelIdeal Cert.KernelIdeal.Gen in (cmpf (F := Ideal) .ogt)) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part30 (List.getElem_mem (l := Cert.ReferenceIdeal.Hand.ops_part30 (F := Ideal)) (n := 38) (by decide))) rfl rfl rfl (by decide) (by decide) (a := Cert.ReferenceIdeal.main_v1505) (b := Cert.ReferenceIdeal.main_call69_v2) (y := Cert.ReferenceIdeal.main_call69_v3) (f := open Cert.ReferenceIdeal Cert.ReferenceIdeal.Gen in (cmpf (F := Ideal) .ogt)) (ha := ⟨by decide, rfl⟩) (hb := ⟨by decide, rfl⟩) (hy := ⟨by decide, rfl⟩)
  rw [hk, hr, ← c_main_v373__main_v1505 hag hel, ← c_main_call12_v2__main_call69_v2 hag hel]

theorem c_main_call12_cst_1__main_call69_cst_1 : StableHlo.after Cert.KernelIdeal.Hand.KOps (Cert.KernelIdeal.Hand.Wl (F := Ideal) m ρ c) (Proc.devRef .tc Cert.KernelIdeal.main_call12_cst_1) = StableHlo.after (Cert.ReferenceIdeal.Hand.ops (F := Ideal)) (StableHlo.launchContents m' c) (Proc.devRef .tc Cert.ReferenceIdeal.main_call69_cst_1) := by
  have hk := StableHlo.Ascending.eq_nullary Cert.KernelIdeal.Hand.KOps_asc (Cert.KernelIdeal.Hand.Wl m ρ c) (Cert.KernelIdeal.Hand.mem_KOps_st7 (Cert.KernelIdeal.Hand.mem_st_7_23 (List.getElem_mem (l := Cert.KernelIdeal.GenP.hostOps7_23 (F := Ideal)) (n := 6) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part30 (List.getElem_mem (l := Cert.ReferenceIdeal.Hand.ops_part30 (F := Ideal)) (n := 39) (by decide))) rfl (hy := ⟨by decide, rfl⟩)
  rw [hk, hr]

theorem c_main_call12_call0_v0__main_call69_call0_v0 : StableHlo.after Cert.KernelIdeal.Hand.KOps (Cert.KernelIdeal.Hand.Wl (F := Ideal) m ρ c) (Proc.devRef .tc Cert.KernelIdeal.main_call12_call0_v0) = StableHlo.after (Cert.ReferenceIdeal.Hand.ops (F := Ideal)) (StableHlo.launchContents m' c) (Proc.devRef .tc Cert.ReferenceIdeal.main_call69_call0_v0) := by
  have hk := StableHlo.Ascending.eq_unary Cert.KernelIdeal.Hand.KOps_asc (Cert.KernelIdeal.Hand.Wl m ρ c) (Cert.KernelIdeal.Hand.mem_KOps_st7 (Cert.KernelIdeal.Hand.mem_st_7_23 (List.getElem_mem (l := Cert.KernelIdeal.GenP.hostOps7_23 (F := Ideal)) (n := 7) (by decide)))) rfl rfl (by decide) (x := Cert.KernelIdeal.main_call12_cst_1) (y := Cert.KernelIdeal.main_call12_call0_v0) (f := open Cert.KernelIdeal Cert.KernelIdeal.Gen in id) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part30 (List.getElem_mem (l := Cert.ReferenceIdeal.Hand.ops_part30 (F := Ideal)) (n := 40) (by decide))) rfl rfl (by decide) (x := Cert.ReferenceIdeal.main_call69_cst_1) (y := Cert.ReferenceIdeal.main_call69_call0_v0) (f := open Cert.ReferenceIdeal Cert.ReferenceIdeal.Gen in id) (hx := ⟨by decide, rfl⟩) (hy := ⟨by decide, rfl⟩)
  rw [hk, hr, ← c_main_call12_cst_1__main_call69_cst_1 hag hel]

theorem c_main_call12_call0_v1__main_call69_call0_v1 : StableHlo.after Cert.KernelIdeal.Hand.KOps (Cert.KernelIdeal.Hand.Wl (F := Ideal) m ρ c) (Proc.devRef .tc Cert.KernelIdeal.main_call12_call0_v1) = StableHlo.after (Cert.ReferenceIdeal.Hand.ops (F := Ideal)) (StableHlo.launchContents m' c) (Proc.devRef .tc Cert.ReferenceIdeal.main_call69_call0_v1) := by
  have hk := StableHlo.Ascending.eq_unary Cert.KernelIdeal.Hand.KOps_asc (Cert.KernelIdeal.Hand.Wl m ρ c) (Cert.KernelIdeal.Hand.mem_KOps_st7 (Cert.KernelIdeal.Hand.mem_st_7_23 (List.getElem_mem (l := Cert.KernelIdeal.GenP.hostOps7_23 (F := Ideal)) (n := 8) (by decide)))) rfl rfl (by decide) (x := Cert.KernelIdeal.main_call12_call0_v0) (y := Cert.KernelIdeal.main_call12_call0_v1) (f := open Cert.KernelIdeal Cert.KernelIdeal.Gen in (broadcastInDim S2048x8 ![] bcast_S_S2048x8)) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part30 (List.getElem_mem (l := Cert.ReferenceIdeal.Hand.ops_part30 (F := Ideal)) (n := 41) (by decide))) rfl rfl (by decide) (x := Cert.ReferenceIdeal.main_call69_call0_v0) (y := Cert.ReferenceIdeal.main_call69_call0_v1) (f := open Cert.ReferenceIdeal Cert.ReferenceIdeal.Gen in (broadcastInDim S2048x8 ![] bcast_S_S2048x8)) (hx := ⟨by decide, rfl⟩) (hy := ⟨by decide, rfl⟩)
  rw [hk, hr, ← c_main_call12_call0_v0__main_call69_call0_v0 hag hel]

theorem c_main_call12_v4__main_call69_v4 : StableHlo.after Cert.KernelIdeal.Hand.KOps (Cert.KernelIdeal.Hand.Wl (F := Ideal) m ρ c) (Proc.devRef .tc Cert.KernelIdeal.main_call12_v4) = StableHlo.after (Cert.ReferenceIdeal.Hand.ops (F := Ideal)) (StableHlo.launchContents m' c) (Proc.devRef .tc Cert.ReferenceIdeal.main_call69_v4) := by
  have hk := StableHlo.Ascending.eq_ternary Cert.KernelIdeal.Hand.KOps_asc (Cert.KernelIdeal.Hand.Wl m ρ c) (Cert.KernelIdeal.Hand.mem_KOps_st7 (Cert.KernelIdeal.Hand.mem_st_7_23 (List.getElem_mem (l := Cert.KernelIdeal.GenP.hostOps7_23 (F := Ideal)) (n := 9) (by decide)))) rfl rfl rfl rfl (by decide) (by decide) (by decide) (c := Cert.KernelIdeal.main_call12_v3) (a := Cert.KernelIdeal.main_call12_call0_v1) (b := Cert.KernelIdeal.main_v373) (y := Cert.KernelIdeal.main_call12_v4) (f := (select : (⟨Cert.KernelIdeal.S2048x8, .i1⟩ : BufTy).Contents (Elt Ideal) → (⟨Cert.KernelIdeal.S2048x8, .f32⟩ : BufTy).Contents (Elt Ideal) → (⟨Cert.KernelIdeal.S2048x8, .f32⟩ : BufTy).Contents (Elt Ideal) → (⟨Cert.KernelIdeal.S2048x8, .f32⟩ : BufTy).Contents (Elt Ideal))) (hc := ⟨by decide, rfl⟩) (ha := ⟨by decide, rfl⟩) (hb := ⟨by decide, rfl⟩) (hy := ⟨by decide, rfl⟩)
  have hr := StableHlo.Ascending.eq_ternary (Cert.ReferenceIdeal.Hand.ops_asc (F := Ideal)) (StableHlo.launchContents m' c) (Cert.ReferenceIdeal.Hand.mem_ops_part30 (List.getElem_mem (l := Cert.ReferenceIdeal.Hand.ops_part30 (F := Ideal)) (n := 42) (by decide))) rfl rfl rfl rfl (by decide) (by decide) (by decide) (c := Cert.ReferenceIdeal.main_call69_v3) (a := Cert.ReferenceIdeal.main_call69_call0_v1) (b := Cert.ReferenceIdeal.main_v1505) (y := Cert.ReferenceIdeal.main_call69_v4) (f := (select : (⟨Cert.ReferenceIdeal.S2048x8, .i1⟩ : BufTy).Contents (Elt Ideal) → (⟨Cert.ReferenceIdeal.S2048x8, .f32⟩ : BufTy).Contents (Elt Ideal) → (⟨Cert.ReferenceIdeal.S2048x8, .f32⟩ : BufTy).Contents (Elt Ideal) → (⟨Cert.ReferenceIdeal.S2048x8, .f32⟩ : BufTy).Contents (Elt Ideal))) (hc := ⟨by decide, rfl⟩) (ha := ⟨by decide, rfl⟩) (hb := ⟨by decide, rfl⟩) (hy := ⟨by decide, rfl⟩)
  rw [hk, hr, ← c_main_call12_v3__main_call69_v3 hag hel, ← c_main_call12_call0_v1__main_call69_call0_v1 hag hel, ← c_main_v373__main_v1505 hag hel]

theorem c_main_call12_v5__main_call69_v5 : StableHlo.after Cert.KernelIdeal.Hand.KOps (Cert.KernelIdeal.Hand.Wl (F := Ideal) m ρ c) (Proc.devRef .tc Cert.KernelIdeal.main_call12_v5) = StableHlo.after (Cert.ReferenceIdeal.Hand.ops (F := Ideal)) (StableHlo.launchContents m' c) (Proc.devRef .tc Cert.ReferenceIdeal.main_call69_v5) := by
  have hk := StableHlo.Ascending.eq_unary Cert.KernelIdeal.Hand.KOps_asc (Cert.KernelIdeal.Hand.Wl m ρ c) (Cert.KernelIdeal.Hand.mem_KOps_st7 (Cert.KernelIdeal.Hand.mem_st_7_23 (List.getElem_mem (l := Cert.KernelIdeal.GenP.hostOps7_23 (F := Ideal)) (n := 10) (by decide)))) rfl rfl (by decide) (x := Cert.KernelIdeal.main_call12_v4) (y := Cert.KernelIdeal.main_call12_v5) (f := open Cert.KernelIdeal Cert.KernelIdeal.Gen in Host.expm1 (F := Ideal)) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part30 (List.getElem_mem (l := Cert.ReferenceIdeal.Hand.ops_part30 (F := Ideal)) (n := 43) (by decide))) rfl rfl (by decide) (x := Cert.ReferenceIdeal.main_call69_v4) (y := Cert.ReferenceIdeal.main_call69_v5) (f := open Cert.ReferenceIdeal Cert.ReferenceIdeal.Gen in Host.expm1 (F := Ideal)) (hx := ⟨by decide, rfl⟩) (hy := ⟨by decide, rfl⟩)
  rw [hk, hr, ← c_main_call12_v4__main_call69_v4 hag hel]

theorem c_main_call12_cst_2__main_call69_cst_2 : StableHlo.after Cert.KernelIdeal.Hand.KOps (Cert.KernelIdeal.Hand.Wl (F := Ideal) m ρ c) (Proc.devRef .tc Cert.KernelIdeal.main_call12_cst_2) = StableHlo.after (Cert.ReferenceIdeal.Hand.ops (F := Ideal)) (StableHlo.launchContents m' c) (Proc.devRef .tc Cert.ReferenceIdeal.main_call69_cst_2) := by
  have hk := StableHlo.Ascending.eq_nullary Cert.KernelIdeal.Hand.KOps_asc (Cert.KernelIdeal.Hand.Wl m ρ c) (Cert.KernelIdeal.Hand.mem_KOps_st7 (Cert.KernelIdeal.Hand.mem_st_7_23 (List.getElem_mem (l := Cert.KernelIdeal.GenP.hostOps7_23 (F := Ideal)) (n := 11) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part30 (List.getElem_mem (l := Cert.ReferenceIdeal.Hand.ops_part30 (F := Ideal)) (n := 44) (by decide))) rfl (hy := ⟨by decide, rfl⟩)
  rw [hk, hr]

theorem c_main_call12_v6__main_call69_v6 : StableHlo.after Cert.KernelIdeal.Hand.KOps (Cert.KernelIdeal.Hand.Wl (F := Ideal) m ρ c) (Proc.devRef .tc Cert.KernelIdeal.main_call12_v6) = StableHlo.after (Cert.ReferenceIdeal.Hand.ops (F := Ideal)) (StableHlo.launchContents m' c) (Proc.devRef .tc Cert.ReferenceIdeal.main_call69_v6) := by
  have hk := StableHlo.Ascending.eq_unary Cert.KernelIdeal.Hand.KOps_asc (Cert.KernelIdeal.Hand.Wl m ρ c) (Cert.KernelIdeal.Hand.mem_KOps_st7 (Cert.KernelIdeal.Hand.mem_st_7_23 (List.getElem_mem (l := Cert.KernelIdeal.GenP.hostOps7_23 (F := Ideal)) (n := 12) (by decide)))) rfl rfl (by decide) (x := Cert.KernelIdeal.main_call12_cst_2) (y := Cert.KernelIdeal.main_call12_v6) (f := open Cert.KernelIdeal Cert.KernelIdeal.Gen in (broadcastInDim S2048x8 ![] bcast_S_S2048x8)) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part30 (List.getElem_mem (l := Cert.ReferenceIdeal.Hand.ops_part30 (F := Ideal)) (n := 45) (by decide))) rfl rfl (by decide) (x := Cert.ReferenceIdeal.main_call69_cst_2) (y := Cert.ReferenceIdeal.main_call69_v6) (f := open Cert.ReferenceIdeal Cert.ReferenceIdeal.Gen in (broadcastInDim S2048x8 ![] bcast_S_S2048x8)) (hx := ⟨by decide, rfl⟩) (hy := ⟨by decide, rfl⟩)
  rw [hk, hr, ← c_main_call12_cst_2__main_call69_cst_2 hag hel]

theorem c_main_call12_v7__main_call69_v7 : StableHlo.after Cert.KernelIdeal.Hand.KOps (Cert.KernelIdeal.Hand.Wl (F := Ideal) m ρ c) (Proc.devRef .tc Cert.KernelIdeal.main_call12_v7) = StableHlo.after (Cert.ReferenceIdeal.Hand.ops (F := Ideal)) (StableHlo.launchContents m' c) (Proc.devRef .tc Cert.ReferenceIdeal.main_call69_v7) := by
  have hk := StableHlo.Ascending.eq_binary Cert.KernelIdeal.Hand.KOps_asc (Cert.KernelIdeal.Hand.Wl m ρ c) (Cert.KernelIdeal.Hand.mem_KOps_st7 (Cert.KernelIdeal.Hand.mem_st_7_23 (List.getElem_mem (l := Cert.KernelIdeal.GenP.hostOps7_23 (F := Ideal)) (n := 13) (by decide)))) rfl rfl rfl (by decide) (by decide) (a := Cert.KernelIdeal.main_call12_v6) (b := Cert.KernelIdeal.main_call12_v5) (y := Cert.KernelIdeal.main_call12_v7) (f := open Cert.KernelIdeal Cert.KernelIdeal.Gen in mulf (F := Ideal)) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part30 (List.getElem_mem (l := Cert.ReferenceIdeal.Hand.ops_part30 (F := Ideal)) (n := 46) (by decide))) rfl rfl rfl (by decide) (by decide) (a := Cert.ReferenceIdeal.main_call69_v6) (b := Cert.ReferenceIdeal.main_call69_v5) (y := Cert.ReferenceIdeal.main_call69_v7) (f := open Cert.ReferenceIdeal Cert.ReferenceIdeal.Gen in mulf (F := Ideal)) (ha := ⟨by decide, rfl⟩) (hb := ⟨by decide, rfl⟩) (hy := ⟨by decide, rfl⟩)
  rw [hk, hr, ← c_main_call12_v6__main_call69_v6 hag hel, ← c_main_call12_v5__main_call69_v5 hag hel]

theorem c_main_v374__main_v1506 : StableHlo.after Cert.KernelIdeal.Hand.KOps (Cert.KernelIdeal.Hand.Wl (F := Ideal) m ρ c) (Proc.devRef .tc Cert.KernelIdeal.main_v374) = StableHlo.after (Cert.ReferenceIdeal.Hand.ops (F := Ideal)) (StableHlo.launchContents m' c) (Proc.devRef .tc Cert.ReferenceIdeal.main_v1506) := by
  have hk := StableHlo.Ascending.eq_ternary Cert.KernelIdeal.Hand.KOps_asc (Cert.KernelIdeal.Hand.Wl m ρ c) (Cert.KernelIdeal.Hand.mem_KOps_st7 (Cert.KernelIdeal.Hand.mem_st_7_23 (List.getElem_mem (l := Cert.KernelIdeal.GenP.hostOps7_23 (F := Ideal)) (n := 14) (by decide)))) rfl rfl rfl rfl (by decide) (by decide) (by decide) (c := Cert.KernelIdeal.main_call12_v1) (a := Cert.KernelIdeal.main_v373) (b := Cert.KernelIdeal.main_call12_v7) (y := Cert.KernelIdeal.main_v374) (f := (select : (⟨Cert.KernelIdeal.S2048x8, .i1⟩ : BufTy).Contents (Elt Ideal) → (⟨Cert.KernelIdeal.S2048x8, .f32⟩ : BufTy).Contents (Elt Ideal) → (⟨Cert.KernelIdeal.S2048x8, .f32⟩ : BufTy).Contents (Elt Ideal) → (⟨Cert.KernelIdeal.S2048x8, .f32⟩ : BufTy).Contents (Elt Ideal))) (hc := ⟨by decide, rfl⟩) (ha := ⟨by decide, rfl⟩) (hb := ⟨by decide, rfl⟩) (hy := ⟨by decide, rfl⟩)
  have hr := StableHlo.Ascending.eq_ternary (Cert.ReferenceIdeal.Hand.ops_asc (F := Ideal)) (StableHlo.launchContents m' c) (Cert.ReferenceIdeal.Hand.mem_ops_part30 (List.getElem_mem (l := Cert.ReferenceIdeal.Hand.ops_part30 (F := Ideal)) (n := 47) (by decide))) rfl rfl rfl rfl (by decide) (by decide) (by decide) (c := Cert.ReferenceIdeal.main_call69_v1) (a := Cert.ReferenceIdeal.main_v1505) (b := Cert.ReferenceIdeal.main_call69_v7) (y := Cert.ReferenceIdeal.main_v1506) (f := (select : (⟨Cert.ReferenceIdeal.S2048x8, .i1⟩ : BufTy).Contents (Elt Ideal) → (⟨Cert.ReferenceIdeal.S2048x8, .f32⟩ : BufTy).Contents (Elt Ideal) → (⟨Cert.ReferenceIdeal.S2048x8, .f32⟩ : BufTy).Contents (Elt Ideal) → (⟨Cert.ReferenceIdeal.S2048x8, .f32⟩ : BufTy).Contents (Elt Ideal))) (hc := ⟨by decide, rfl⟩) (ha := ⟨by decide, rfl⟩) (hb := ⟨by decide, rfl⟩) (hy := ⟨by decide, rfl⟩)
  rw [hk, hr, ← c_main_call12_v1__main_call69_v1 hag hel, ← c_main_v373__main_v1505 hag hel, ← c_main_call12_v7__main_call69_v7 hag hel]

theorem c_main_v375__main_v1507 : StableHlo.after Cert.KernelIdeal.Hand.KOps (Cert.KernelIdeal.Hand.Wl (F := Ideal) m ρ c) (Proc.devRef .tc Cert.KernelIdeal.main_v375) = StableHlo.after (Cert.ReferenceIdeal.Hand.ops (F := Ideal)) (StableHlo.launchContents m' c) (Proc.devRef .tc Cert.ReferenceIdeal.main_v1507) := by
  have hk := StableHlo.Ascending.eq_unary Cert.KernelIdeal.Hand.KOps_asc (Cert.KernelIdeal.Hand.Wl m ρ c) (Cert.KernelIdeal.Hand.mem_KOps_st7 (Cert.KernelIdeal.Hand.mem_st_7_24 (List.getElem_mem (l := Cert.KernelIdeal.GenP.hostOps7_24 (F := Ideal)) (n := 0) (by decide)))) rfl rfl (by decide) (x := Cert.KernelIdeal.main_v165) (y := Cert.KernelIdeal.main_v375) (f := open Cert.KernelIdeal Cert.KernelIdeal.Gen in (extractStridedSlice S16x1 ![0, 2] · slices_S16x8_S16x1_0_2)) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part30 (List.getElem_mem (l := Cert.ReferenceIdeal.Hand.ops_part30 (F := Ideal)) (n := 48) (by decide))) rfl rfl (by decide) (x := Cert.ReferenceIdeal.main_v1258) (y := Cert.ReferenceIdeal.main_v1507) (f := open Cert.ReferenceIdeal Cert.ReferenceIdeal.Gen in (extractStridedSlice S16x1 ![0, 2] · slices_S16x8_S16x1_0_2)) (hx := ⟨by decide, rfl⟩) (hy := ⟨by decide, rfl⟩)
  rw [hk, hr, ← c_main_v165__main_v1258 hag hel]

theorem c_main_v376__main_v1508 : StableHlo.after Cert.KernelIdeal.Hand.KOps (Cert.KernelIdeal.Hand.Wl (F := Ideal) m ρ c) (Proc.devRef .tc Cert.KernelIdeal.main_v376) = StableHlo.after (Cert.ReferenceIdeal.Hand.ops (F := Ideal)) (StableHlo.launchContents m' c) (Proc.devRef .tc Cert.ReferenceIdeal.main_v1508) := by
  have hk := StableHlo.Ascending.eq_unary Cert.KernelIdeal.Hand.KOps_asc (Cert.KernelIdeal.Hand.Wl m ρ c) (Cert.KernelIdeal.Hand.mem_KOps_st7 (Cert.KernelIdeal.Hand.mem_st_7_24 (List.getElem_mem (l := Cert.KernelIdeal.GenP.hostOps7_24 (F := Ideal)) (n := 1) (by decide)))) rfl rfl (by decide) (x := Cert.KernelIdeal.main_v165) (y := Cert.KernelIdeal.main_v376) (f := open Cert.KernelIdeal Cert.KernelIdeal.Gen in (extractStridedSlice S16x1 ![0, 6] · slices_S16x8_S16x1_0_6)) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part30 (List.getElem_mem (l := Cert.ReferenceIdeal.Hand.ops_part30 (F := Ideal)) (n := 49) (by decide))) rfl rfl (by decide) (x := Cert.ReferenceIdeal.main_v1258) (y := Cert.ReferenceIdeal.main_v1508) (f := open Cert.ReferenceIdeal Cert.ReferenceIdeal.Gen in (extractStridedSlice S16x1 ![0, 6] · slices_S16x8_S16x1_0_6)) (hx := ⟨by decide, rfl⟩) (hy := ⟨by decide, rfl⟩)
  rw [hk, hr, ← c_main_v165__main_v1258 hag hel]

theorem c_main_v377__main_v1509 : StableHlo.after Cert.KernelIdeal.Hand.KOps (Cert.KernelIdeal.Hand.Wl (F := Ideal) m ρ c) (Proc.devRef .tc Cert.KernelIdeal.main_v377) = StableHlo.after (Cert.ReferenceIdeal.Hand.ops (F := Ideal)) (StableHlo.launchContents m' c) (Proc.devRef .tc Cert.ReferenceIdeal.main_v1509) := by
  have hk := StableHlo.Ascending.eq_unary Cert.KernelIdeal.Hand.KOps_asc (Cert.KernelIdeal.Hand.Wl m ρ c) (Cert.KernelIdeal.Hand.mem_KOps_st7 (Cert.KernelIdeal.Hand.mem_st_7_24 (List.getElem_mem (l := Cert.KernelIdeal.GenP.hostOps7_24 (F := Ideal)) (n := 2) (by decide)))) rfl rfl (by decide) (x := Cert.KernelIdeal.main_arg4) (y := Cert.KernelIdeal.main_v377) (f := open Cert.KernelIdeal Cert.KernelIdeal.Gen in (extractStridedSlice S1x256x8 ![2, 0, 0] · slices_S4x256x8_S1x256x8_2_0_0)) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part30 (List.getElem_mem (l := Cert.ReferenceIdeal.Hand.ops_part30 (F := Ideal)) (n := 50) (by decide))) rfl rfl (by decide) (x := Cert.ReferenceIdeal.main_arg4) (y := Cert.ReferenceIdeal.main_v1509) (f := open Cert.ReferenceIdeal Cert.ReferenceIdeal.Gen in (extractStridedSlice S1x256x8 ![2, 0, 0] · slices_S4x256x8_S1x256x8_2_0_0)) (hx := ⟨by decide, rfl⟩) (hy := ⟨by decide, rfl⟩)
  rw [hk, hr, ← c_main_arg4__main_arg4 hag hel]

theorem c_main_v378__main_v1510 : StableHlo.after Cert.KernelIdeal.Hand.KOps (Cert.KernelIdeal.Hand.Wl (F := Ideal) m ρ c) (Proc.devRef .tc Cert.KernelIdeal.main_v378) = StableHlo.after (Cert.ReferenceIdeal.Hand.ops (F := Ideal)) (StableHlo.launchContents m' c) (Proc.devRef .tc Cert.ReferenceIdeal.main_v1510) := by
  have hk := StableHlo.Ascending.eq_reshape Cert.KernelIdeal.Hand.KOps_asc (Cert.KernelIdeal.Hand.Wl m ρ c) (Cert.KernelIdeal.Hand.mem_KOps_st7 (Cert.KernelIdeal.Hand.mem_st_7_24 (List.getElem_mem (l := Cert.KernelIdeal.GenP.hostOps7_24 (F := Ideal)) (n := 3) (by decide)))) rfl rfl (by decide) (x := Cert.KernelIdeal.main_v377) (y := Cert.KernelIdeal.main_v378) (he := rfl) (hn := Cert.KernelIdeal.Gen.shapeCasts_S1x256x8_S256x8) (hx := ⟨by decide, rfl⟩) (hy := ⟨by decide, rfl⟩)
  have hr := StableHlo.Ascending.eq_reshape (Cert.ReferenceIdeal.Hand.ops_asc (F := Ideal)) (StableHlo.launchContents m' c) (Cert.ReferenceIdeal.Hand.mem_ops_part30 (List.getElem_mem (l := Cert.ReferenceIdeal.Hand.ops_part30 (F := Ideal)) (n := 51) (by decide))) rfl rfl (by decide) (x := Cert.ReferenceIdeal.main_v1509) (y := Cert.ReferenceIdeal.main_v1510) (he := rfl) (hn := Cert.ReferenceIdeal.Gen.shapeCasts_S1x256x8_S256x8) (hx := ⟨by decide, rfl⟩) (hy := ⟨by decide, rfl⟩)
  rw [hk, hr, ← c_main_v377__main_v1509 hag hel]
  rfl

theorem c_main_v379__main_v1547 : StableHlo.after Cert.KernelIdeal.Hand.KOps (Cert.KernelIdeal.Hand.Wl (F := Ideal) m ρ c) (Proc.devRef .tc Cert.KernelIdeal.main_v379) = StableHlo.after (Cert.ReferenceIdeal.Hand.ops (F := Ideal)) (StableHlo.launchContents m' c) (Proc.devRef .tc Cert.ReferenceIdeal.main_v1547) := by
  have hk := StableHlo.Ascending.eq_binary Cert.KernelIdeal.Hand.KOps_asc (Cert.KernelIdeal.Hand.Wl m ρ c) (Cert.KernelIdeal.Hand.mem_KOps_st7 (Cert.KernelIdeal.Hand.mem_st_7_24 (List.getElem_mem (l := Cert.KernelIdeal.GenP.hostOps7_24 (F := Ideal)) (n := 4) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part31 (List.getElem_mem (l := Cert.ReferenceIdeal.Hand.ops_part31 (F := Ideal)) (n := 22) (by decide))) rfl rfl rfl (by decide) (by decide) (ha := ⟨by decide, rfl⟩) (hb := ⟨by decide, rfl⟩) (hy := ⟨by decide, rfl⟩)
  rw [hk, hr, ← c_main_v45__main_v144 hag hel, ← c_main_v378__main_v1510 hag hel]
  rfl

theorem c_main_v380__main_v1548 : StableHlo.after Cert.KernelIdeal.Hand.KOps (Cert.KernelIdeal.Hand.Wl (F := Ideal) m ρ c) (Proc.devRef .tc Cert.KernelIdeal.main_v380) = StableHlo.after (Cert.ReferenceIdeal.Hand.ops (F := Ideal)) (StableHlo.launchContents m' c) (Proc.devRef .tc Cert.ReferenceIdeal.main_v1548) := by
  have hk := StableHlo.Ascending.eq_binary Cert.KernelIdeal.Hand.KOps_asc (Cert.KernelIdeal.Hand.Wl m ρ c) (Cert.KernelIdeal.Hand.mem_KOps_st7 (Cert.KernelIdeal.Hand.mem_st_7_24 (List.getElem_mem (l := Cert.KernelIdeal.GenP.hostOps7_24 (F := Ideal)) (n := 5) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part31 (List.getElem_mem (l := Cert.ReferenceIdeal.Hand.ops_part31 (F := Ideal)) (n := 23) (by decide))) rfl rfl rfl (by decide) (by decide) (ha := ⟨by decide, rfl⟩) (hb := ⟨by decide, rfl⟩) (hy := ⟨by decide, rfl⟩)
  rw [hk, hr, ← c_main_v45__main_v144 hag hel, ← c_main_v378__main_v1510 hag hel]
  rfl

theorem c_main_v381__main_v1549 : StableHlo.after Cert.KernelIdeal.Hand.KOps (Cert.KernelIdeal.Hand.Wl (F := Ideal) m ρ c) (Proc.devRef .tc Cert.KernelIdeal.main_v381) = StableHlo.after (Cert.ReferenceIdeal.Hand.ops (F := Ideal)) (StableHlo.launchContents m' c) (Proc.devRef .tc Cert.ReferenceIdeal.main_v1549) := by
  have hk := StableHlo.Ascending.eq_binary Cert.KernelIdeal.Hand.KOps_asc (Cert.KernelIdeal.Hand.Wl m ρ c) (Cert.KernelIdeal.Hand.mem_KOps_st7 (Cert.KernelIdeal.Hand.mem_st_7_24 (List.getElem_mem (l := Cert.KernelIdeal.GenP.hostOps7_24 (F := Ideal)) (n := 6) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part31 (List.getElem_mem (l := Cert.ReferenceIdeal.Hand.ops_part31 (F := Ideal)) (n := 24) (by decide))) rfl rfl rfl (by decide) (by decide) (ha := ⟨by decide, rfl⟩) (hb := ⟨by decide, rfl⟩) (hy := ⟨by decide, rfl⟩)
  rw [hk, hr, ← c_main_v38__main_v137 hag hel, ← c_main_v378__main_v1510 hag hel]
  rfl

theorem c_main_v382__main_v1550 : StableHlo.after Cert.KernelIdeal.Hand.KOps (Cert.KernelIdeal.Hand.Wl (F := Ideal) m ρ c) (Proc.devRef .tc Cert.KernelIdeal.main_v382) = StableHlo.after (Cert.ReferenceIdeal.Hand.ops (F := Ideal)) (StableHlo.launchContents m' c) (Proc.devRef .tc Cert.ReferenceIdeal.main_v1550) := by
  have hk := StableHlo.Ascending.eq_unary Cert.KernelIdeal.Hand.KOps_asc (Cert.KernelIdeal.Hand.Wl m ρ c) (Cert.KernelIdeal.Hand.mem_KOps_st7 (Cert.KernelIdeal.Hand.mem_st_7_24 (List.getElem_mem (l := Cert.KernelIdeal.GenP.hostOps7_24 (F := Ideal)) (n := 7) (by decide)))) rfl rfl (by decide) (x := Cert.KernelIdeal.main_v375) (y := Cert.KernelIdeal.main_v382) (f := open Cert.KernelIdeal Cert.KernelIdeal.Gen in (extractStridedSlice S8x1 ![0, 0] · slices_S16x1_S8x1_0_0)) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part31 (List.getElem_mem (l := Cert.ReferenceIdeal.Hand.ops_part31 (F := Ideal)) (n := 25) (by decide))) rfl rfl (by decide) (x := Cert.ReferenceIdeal.main_v1507) (y := Cert.ReferenceIdeal.main_v1550) (f := open Cert.ReferenceIdeal Cert.ReferenceIdeal.Gen in (extractStridedSlice S8x1 ![0, 0] · slices_S16x1_S8x1_0_0)) (hx := ⟨by decide, rfl⟩) (hy := ⟨by decide, rfl⟩)
  rw [hk, hr, ← c_main_v375__main_v1507 hag hel]

theorem c_main_v383__main_v1551 : StableHlo.after Cert.KernelIdeal.Hand.KOps (Cert.KernelIdeal.Hand.Wl (F := Ideal) m ρ c) (Proc.devRef .tc Cert.KernelIdeal.main_v383) = StableHlo.after (Cert.ReferenceIdeal.Hand.ops (F := Ideal)) (StableHlo.launchContents m' c) (Proc.devRef .tc Cert.ReferenceIdeal.main_v1551) := by
  have hk := StableHlo.Ascending.eq_binary Cert.KernelIdeal.Hand.KOps_asc (Cert.KernelIdeal.Hand.Wl m ρ c) (Cert.KernelIdeal.Hand.mem_KOps_st7 (Cert.KernelIdeal.Hand.mem_st_7_24 (List.getElem_mem (l := Cert.KernelIdeal.GenP.hostOps7_24 (F := Ideal)) (n := 8) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part31 (List.getElem_mem (l := Cert.ReferenceIdeal.Hand.ops_part31 (F := Ideal)) (n := 26) (by decide))) rfl rfl rfl (by decide) (by decide) (ha := ⟨by decide, rfl⟩) (hb := ⟨by decide, rfl⟩) (hy := ⟨by decide, rfl⟩)
  rw [hk, hr, ← c_main_v380__main_v1548 hag hel, ← c_main_v382__main_v1550 hag hel]
  rfl

theorem c_main_v384__main_v1552 : StableHlo.after Cert.KernelIdeal.Hand.KOps (Cert.KernelIdeal.Hand.Wl (F := Ideal) m ρ c) (Proc.devRef .tc Cert.KernelIdeal.main_v384) = StableHlo.after (Cert.ReferenceIdeal.Hand.ops (F := Ideal)) (StableHlo.launchContents m' c) (Proc.devRef .tc Cert.ReferenceIdeal.main_v1552) := by
  have hk := StableHlo.Ascending.eq_unary Cert.KernelIdeal.Hand.KOps_asc (Cert.KernelIdeal.Hand.Wl m ρ c) (Cert.KernelIdeal.Hand.mem_KOps_st7 (Cert.KernelIdeal.Hand.mem_st_7_24 (List.getElem_mem (l := Cert.KernelIdeal.GenP.hostOps7_24 (F := Ideal)) (n := 9) (by decide)))) rfl rfl (by decide) (x := Cert.KernelIdeal.main_v375) (y := Cert.KernelIdeal.main_v384) (f := open Cert.KernelIdeal Cert.KernelIdeal.Gen in (extractStridedSlice S8x1 ![8, 0] · slices_S16x1_S8x1_8_0)) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part31 (List.getElem_mem (l := Cert.ReferenceIdeal.Hand.ops_part31 (F := Ideal)) (n := 27) (by decide))) rfl rfl (by decide) (x := Cert.ReferenceIdeal.main_v1507) (y := Cert.ReferenceIdeal.main_v1552) (f := open Cert.ReferenceIdeal Cert.ReferenceIdeal.Gen in (extractStridedSlice S8x1 ![8, 0] · slices_S16x1_S8x1_8_0)) (hx := ⟨by decide, rfl⟩) (hy := ⟨by decide, rfl⟩)
  rw [hk, hr, ← c_main_v375__main_v1507 hag hel]

theorem c_main_v385__main_v1553 : StableHlo.after Cert.KernelIdeal.Hand.KOps (Cert.KernelIdeal.Hand.Wl (F := Ideal) m ρ c) (Proc.devRef .tc Cert.KernelIdeal.main_v385) = StableHlo.after (Cert.ReferenceIdeal.Hand.ops (F := Ideal)) (StableHlo.launchContents m' c) (Proc.devRef .tc Cert.ReferenceIdeal.main_v1553) := by
  have hk := StableHlo.Ascending.eq_binary Cert.KernelIdeal.Hand.KOps_asc (Cert.KernelIdeal.Hand.Wl m ρ c) (Cert.KernelIdeal.Hand.mem_KOps_st7 (Cert.KernelIdeal.Hand.mem_st_7_24 (List.getElem_mem (l := Cert.KernelIdeal.GenP.hostOps7_24 (F := Ideal)) (n := 10) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part31 (List.getElem_mem (l := Cert.ReferenceIdeal.Hand.ops_part31 (F := Ideal)) (n := 28) (by decide))) rfl rfl rfl (by decide) (by decide) (ha := ⟨by decide, rfl⟩) (hb := ⟨by decide, rfl⟩) (hy := ⟨by decide, rfl⟩)
  rw [hk, hr, ← c_main_v381__main_v1549 hag hel, ← c_main_v384__main_v1552 hag hel]
  rfl

theorem c_main_v386__main_v1554 : StableHlo.after Cert.KernelIdeal.Hand.KOps (Cert.KernelIdeal.Hand.Wl (F := Ideal) m ρ c) (Proc.devRef .tc Cert.KernelIdeal.main_v386) = StableHlo.after (Cert.ReferenceIdeal.Hand.ops (F := Ideal)) (StableHlo.launchContents m' c) (Proc.devRef .tc Cert.ReferenceIdeal.main_v1554) := by
  have hk := StableHlo.Ascending.eq_unary Cert.KernelIdeal.Hand.KOps_asc (Cert.KernelIdeal.Hand.Wl m ρ c) (Cert.KernelIdeal.Hand.mem_KOps_st7 (Cert.KernelIdeal.Hand.mem_st_7_24 (List.getElem_mem (l := Cert.KernelIdeal.GenP.hostOps7_24 (F := Ideal)) (n := 11) (by decide)))) rfl rfl (by decide) (x := Cert.KernelIdeal.main_v385) (y := Cert.KernelIdeal.main_v386) (f := open Cert.KernelIdeal Cert.KernelIdeal.Gen in (transpose S1x2048 [1, 0] · transposes_S2048x1_S1x2048_1_0)) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part31 (List.getElem_mem (l := Cert.ReferenceIdeal.Hand.ops_part31 (F := Ideal)) (n := 29) (by decide))) rfl rfl (by decide) (x := Cert.ReferenceIdeal.main_v1553) (y := Cert.ReferenceIdeal.main_v1554) (f := open Cert.ReferenceIdeal Cert.ReferenceIdeal.Gen in (transpose S1x2048 [1, 0] · transposes_S2048x1_S1x2048_1_0)) (hx := ⟨by decide, rfl⟩) (hy := ⟨by decide, rfl⟩)
  rw [hk, hr, ← c_main_v385__main_v1553 hag hel]

theorem c_main_v387__main_v1555 : StableHlo.after Cert.KernelIdeal.Hand.KOps (Cert.KernelIdeal.Hand.Wl (F := Ideal) m ρ c) (Proc.devRef .tc Cert.KernelIdeal.main_v387) = StableHlo.after (Cert.ReferenceIdeal.Hand.ops (F := Ideal)) (StableHlo.launchContents m' c) (Proc.devRef .tc Cert.ReferenceIdeal.main_v1555) := by
  have hk := StableHlo.Ascending.eq_unary Cert.KernelIdeal.Hand.KOps_asc (Cert.KernelIdeal.Hand.Wl m ρ c) (Cert.KernelIdeal.Hand.mem_KOps_st7 (Cert.KernelIdeal.Hand.mem_st_7_24 (List.getElem_mem (l := Cert.KernelIdeal.GenP.hostOps7_24 (F := Ideal)) (n := 12) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part31 (List.getElem_mem (l := Cert.ReferenceIdeal.Hand.ops_part31 (F := Ideal)) (n := 30) (by decide))) rfl rfl (by decide) (hx := ⟨by decide, rfl⟩) (hy := ⟨by decide, rfl⟩)
  rw [hk, hr, ← c_main_v383__main_v1551 hag hel]

theorem c_main_v388__main_v1556 : StableHlo.after Cert.KernelIdeal.Hand.KOps (Cert.KernelIdeal.Hand.Wl (F := Ideal) m ρ c) (Proc.devRef .tc Cert.KernelIdeal.main_v388) = StableHlo.after (Cert.ReferenceIdeal.Hand.ops (F := Ideal)) (StableHlo.launchContents m' c) (Proc.devRef .tc Cert.ReferenceIdeal.main_v1556) := by
  have hk := StableHlo.Ascending.eq_unary Cert.KernelIdeal.Hand.KOps_asc (Cert.KernelIdeal.Hand.Wl m ρ c) (Cert.KernelIdeal.Hand.mem_KOps_st7 (Cert.KernelIdeal.Hand.mem_st_7_24 (List.getElem_mem (l := Cert.KernelIdeal.GenP.hostOps7_24 (F := Ideal)) (n := 13) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part31 (List.getElem_mem (l := Cert.ReferenceIdeal.Hand.ops_part31 (F := Ideal)) (n := 31) (by decide))) rfl rfl (by decide) (hx := ⟨by decide, rfl⟩) (hy := ⟨by decide, rfl⟩)
  rw [hk, hr, ← c_main_v386__main_v1554 hag hel]

theorem c_main_v389__main_v1557 : StableHlo.after Cert.KernelIdeal.Hand.KOps (Cert.KernelIdeal.Hand.Wl (F := Ideal) m ρ c) (Proc.devRef .tc Cert.KernelIdeal.main_v389) = StableHlo.after (Cert.ReferenceIdeal.Hand.ops (F := Ideal)) (StableHlo.launchContents m' c) (Proc.devRef .tc Cert.ReferenceIdeal.main_v1557) := by
  have hk := StableHlo.Ascending.eq_binary Cert.KernelIdeal.Hand.KOps_asc (Cert.KernelIdeal.Hand.Wl m ρ c) (Cert.KernelIdeal.Hand.mem_KOps_st7 (Cert.KernelIdeal.Hand.mem_st_7_24 (List.getElem_mem (l := Cert.KernelIdeal.GenP.hostOps7_24 (F := Ideal)) (n := 14) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part31 (List.getElem_mem (l := Cert.ReferenceIdeal.Hand.ops_part31 (F := Ideal)) (n := 32) (by decide))) rfl rfl rfl (by decide) (by decide) (ha := ⟨by decide, rfl⟩) (hb := ⟨by decide, rfl⟩) (hy := ⟨by decide, rfl⟩)
  rw [hk, hr, ← c_main_v387__main_v1555 hag hel, ← c_main_v388__main_v1556 hag hel]

theorem c_main_cst_71__main_cst_331 : StableHlo.after Cert.KernelIdeal.Hand.KOps (Cert.KernelIdeal.Hand.Wl (F := Ideal) m ρ c) (Proc.devRef .tc Cert.KernelIdeal.main_cst_71) = StableHlo.after (Cert.ReferenceIdeal.Hand.ops (F := Ideal)) (StableHlo.launchContents m' c) (Proc.devRef .tc Cert.ReferenceIdeal.main_cst_331) := by
  have hk := StableHlo.Ascending.eq_nullary Cert.KernelIdeal.Hand.KOps_asc (Cert.KernelIdeal.Hand.Wl m ρ c) (Cert.KernelIdeal.Hand.mem_KOps_st7 (Cert.KernelIdeal.Hand.mem_st_7_24 (List.getElem_mem (l := Cert.KernelIdeal.GenP.hostOps7_24 (F := Ideal)) (n := 15) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part31 (List.getElem_mem (l := Cert.ReferenceIdeal.Hand.ops_part31 (F := Ideal)) (n := 33) (by decide))) rfl (hy := ⟨by decide, rfl⟩)
  rw [hk, hr]

theorem c_main_call13_cst__main_call71_cst : StableHlo.after Cert.KernelIdeal.Hand.KOps (Cert.KernelIdeal.Hand.Wl (F := Ideal) m ρ c) (Proc.devRef .tc Cert.KernelIdeal.main_call13_cst) = StableHlo.after (Cert.ReferenceIdeal.Hand.ops (F := Ideal)) (StableHlo.launchContents m' c) (Proc.devRef .tc Cert.ReferenceIdeal.main_call71_cst) := by
  have hk := StableHlo.Ascending.eq_nullary Cert.KernelIdeal.Hand.KOps_asc (Cert.KernelIdeal.Hand.Wl m ρ c) (Cert.KernelIdeal.Hand.mem_KOps_st7 (Cert.KernelIdeal.Hand.mem_st_7_25 (List.getElem_mem (l := Cert.KernelIdeal.GenP.hostOps7_25 (F := Ideal)) (n := 0) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part31 (List.getElem_mem (l := Cert.ReferenceIdeal.Hand.ops_part31 (F := Ideal)) (n := 34) (by decide))) rfl (hy := ⟨by decide, rfl⟩)
  rw [hk, hr]

theorem c_main_call13_v0__main_call71_v0 : StableHlo.after Cert.KernelIdeal.Hand.KOps (Cert.KernelIdeal.Hand.Wl (F := Ideal) m ρ c) (Proc.devRef .tc Cert.KernelIdeal.main_call13_v0) = StableHlo.after (Cert.ReferenceIdeal.Hand.ops (F := Ideal)) (StableHlo.launchContents m' c) (Proc.devRef .tc Cert.ReferenceIdeal.main_call71_v0) := by
  have hk := StableHlo.Ascending.eq_unary Cert.KernelIdeal.Hand.KOps_asc (Cert.KernelIdeal.Hand.Wl m ρ c) (Cert.KernelIdeal.Hand.mem_KOps_st7 (Cert.KernelIdeal.Hand.mem_st_7_25 (List.getElem_mem (l := Cert.KernelIdeal.GenP.hostOps7_25 (F := Ideal)) (n := 1) (by decide)))) rfl rfl (by decide) (x := Cert.KernelIdeal.main_call13_cst) (y := Cert.KernelIdeal.main_call13_v0) (f := open Cert.KernelIdeal Cert.KernelIdeal.Gen in (broadcastInDim S2048x2048 ![] bcast_S_S2048x2048)) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part31 (List.getElem_mem (l := Cert.ReferenceIdeal.Hand.ops_part31 (F := Ideal)) (n := 35) (by decide))) rfl rfl (by decide) (x := Cert.ReferenceIdeal.main_call71_cst) (y := Cert.ReferenceIdeal.main_call71_v0) (f := open Cert.ReferenceIdeal Cert.ReferenceIdeal.Gen in (broadcastInDim S2048x2048 ![] bcast_S_S2048x2048)) (hx := ⟨by decide, rfl⟩) (hy := ⟨by decide, rfl⟩)
  rw [hk, hr, ← c_main_call13_cst__main_call71_cst hag hel]

theorem c_main_call13_v1__main_call71_v1 : StableHlo.after Cert.KernelIdeal.Hand.KOps (Cert.KernelIdeal.Hand.Wl (F := Ideal) m ρ c) (Proc.devRef .tc Cert.KernelIdeal.main_call13_v1) = StableHlo.after (Cert.ReferenceIdeal.Hand.ops (F := Ideal)) (StableHlo.launchContents m' c) (Proc.devRef .tc Cert.ReferenceIdeal.main_call71_v1) := by
  have hk := StableHlo.Ascending.eq_binary Cert.KernelIdeal.Hand.KOps_asc (Cert.KernelIdeal.Hand.Wl m ρ c) (Cert.KernelIdeal.Hand.mem_KOps_st7 (Cert.KernelIdeal.Hand.mem_st_7_25 (List.getElem_mem (l := Cert.KernelIdeal.GenP.hostOps7_25 (F := Ideal)) (n := 2) (by decide)))) rfl rfl rfl (by decide) (by decide) (a := Cert.KernelIdeal.main_v389) (b := Cert.KernelIdeal.main_call13_v0) (y := Cert.KernelIdeal.main_call13_v1) (f := open Cert.KernelIdeal Cert.KernelIdeal.Gen in (cmpf (F := Ideal) .oge)) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part31 (List.getElem_mem (l := Cert.ReferenceIdeal.Hand.ops_part31 (F := Ideal)) (n := 36) (by decide))) rfl rfl rfl (by decide) (by decide) (a := Cert.ReferenceIdeal.main_v1557) (b := Cert.ReferenceIdeal.main_call71_v0) (y := Cert.ReferenceIdeal.main_call71_v1) (f := open Cert.ReferenceIdeal Cert.ReferenceIdeal.Gen in (cmpf (F := Ideal) .oge)) (ha := ⟨by decide, rfl⟩) (hb := ⟨by decide, rfl⟩) (hy := ⟨by decide, rfl⟩)
  rw [hk, hr, ← c_main_v389__main_v1557 hag hel, ← c_main_call13_v0__main_call71_v0 hag hel]

theorem c_main_call13_v2__main_call71_v2 : StableHlo.after Cert.KernelIdeal.Hand.KOps (Cert.KernelIdeal.Hand.Wl (F := Ideal) m ρ c) (Proc.devRef .tc Cert.KernelIdeal.main_call13_v2) = StableHlo.after (Cert.ReferenceIdeal.Hand.ops (F := Ideal)) (StableHlo.launchContents m' c) (Proc.devRef .tc Cert.ReferenceIdeal.main_call71_v2) := by
  have hk := StableHlo.Ascending.eq_unary Cert.KernelIdeal.Hand.KOps_asc (Cert.KernelIdeal.Hand.Wl m ρ c) (Cert.KernelIdeal.Hand.mem_KOps_st7 (Cert.KernelIdeal.Hand.mem_st_7_25 (List.getElem_mem (l := Cert.KernelIdeal.GenP.hostOps7_25 (F := Ideal)) (n := 3) (by decide)))) rfl rfl (by decide) (x := Cert.KernelIdeal.main_cst_71) (y := Cert.KernelIdeal.main_call13_v2) (f := open Cert.KernelIdeal Cert.KernelIdeal.Gen in id) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part31 (List.getElem_mem (l := Cert.ReferenceIdeal.Hand.ops_part31 (F := Ideal)) (n := 37) (by decide))) rfl rfl (by decide) (x := Cert.ReferenceIdeal.main_cst_331) (y := Cert.ReferenceIdeal.main_call71_v2) (f := open Cert.ReferenceIdeal Cert.ReferenceIdeal.Gen in id) (hx := ⟨by decide, rfl⟩) (hy := ⟨by decide, rfl⟩)
  rw [hk, hr, ← c_main_cst_71__main_cst_331 hag hel]

theorem c_main_call13_v3__main_call71_v3 : StableHlo.after Cert.KernelIdeal.Hand.KOps (Cert.KernelIdeal.Hand.Wl (F := Ideal) m ρ c) (Proc.devRef .tc Cert.KernelIdeal.main_call13_v3) = StableHlo.after (Cert.ReferenceIdeal.Hand.ops (F := Ideal)) (StableHlo.launchContents m' c) (Proc.devRef .tc Cert.ReferenceIdeal.main_call71_v3) := by
  have hk := StableHlo.Ascending.eq_unary Cert.KernelIdeal.Hand.KOps_asc (Cert.KernelIdeal.Hand.Wl m ρ c) (Cert.KernelIdeal.Hand.mem_KOps_st7 (Cert.KernelIdeal.Hand.mem_st_7_25 (List.getElem_mem (l := Cert.KernelIdeal.GenP.hostOps7_25 (F := Ideal)) (n := 4) (by decide)))) rfl rfl (by decide) (x := Cert.KernelIdeal.main_call13_v2) (y := Cert.KernelIdeal.main_call13_v3) (f := open Cert.KernelIdeal Cert.KernelIdeal.Gen in (broadcastInDim S2048x2048 ![] bcast_S_S2048x2048)) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part31 (List.getElem_mem (l := Cert.ReferenceIdeal.Hand.ops_part31 (F := Ideal)) (n := 38) (by decide))) rfl rfl (by decide) (x := Cert.ReferenceIdeal.main_call71_v2) (y := Cert.ReferenceIdeal.main_call71_v3) (f := open Cert.ReferenceIdeal Cert.ReferenceIdeal.Gen in (broadcastInDim S2048x2048 ![] bcast_S_S2048x2048)) (hx := ⟨by decide, rfl⟩) (hy := ⟨by decide, rfl⟩)
  rw [hk, hr, ← c_main_call13_v2__main_call71_v2 hag hel]

theorem c_main_call13_v4__main_call71_v4 : StableHlo.after Cert.KernelIdeal.Hand.KOps (Cert.KernelIdeal.Hand.Wl (F := Ideal) m ρ c) (Proc.devRef .tc Cert.KernelIdeal.main_call13_v4) = StableHlo.after (Cert.ReferenceIdeal.Hand.ops (F := Ideal)) (StableHlo.launchContents m' c) (Proc.devRef .tc Cert.ReferenceIdeal.main_call71_v4) := by
  have hk := StableHlo.Ascending.eq_binary Cert.KernelIdeal.Hand.KOps_asc (Cert.KernelIdeal.Hand.Wl m ρ c) (Cert.KernelIdeal.Hand.mem_KOps_st7 (Cert.KernelIdeal.Hand.mem_st_7_25 (List.getElem_mem (l := Cert.KernelIdeal.GenP.hostOps7_25 (F := Ideal)) (n := 5) (by decide)))) rfl rfl rfl (by decide) (by decide) (a := Cert.KernelIdeal.main_call13_v3) (b := Cert.KernelIdeal.main_v389) (y := Cert.KernelIdeal.main_call13_v4) (f := open Cert.KernelIdeal Cert.KernelIdeal.Gen in mulf (F := Ideal)) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part31 (List.getElem_mem (l := Cert.ReferenceIdeal.Hand.ops_part31 (F := Ideal)) (n := 39) (by decide))) rfl rfl rfl (by decide) (by decide) (a := Cert.ReferenceIdeal.main_call71_v3) (b := Cert.ReferenceIdeal.main_v1557) (y := Cert.ReferenceIdeal.main_call71_v4) (f := open Cert.ReferenceIdeal Cert.ReferenceIdeal.Gen in mulf (F := Ideal)) (ha := ⟨by decide, rfl⟩) (hb := ⟨by decide, rfl⟩) (hy := ⟨by decide, rfl⟩)
  rw [hk, hr, ← c_main_call13_v3__main_call71_v3 hag hel, ← c_main_v389__main_v1557 hag hel]

theorem c_main_v390__main_v1558 : StableHlo.after Cert.KernelIdeal.Hand.KOps (Cert.KernelIdeal.Hand.Wl (F := Ideal) m ρ c) (Proc.devRef .tc Cert.KernelIdeal.main_v390) = StableHlo.after (Cert.ReferenceIdeal.Hand.ops (F := Ideal)) (StableHlo.launchContents m' c) (Proc.devRef .tc Cert.ReferenceIdeal.main_v1558) := by
  have hk := StableHlo.Ascending.eq_ternary Cert.KernelIdeal.Hand.KOps_asc (Cert.KernelIdeal.Hand.Wl m ρ c) (Cert.KernelIdeal.Hand.mem_KOps_st7 (Cert.KernelIdeal.Hand.mem_st_7_25 (List.getElem_mem (l := Cert.KernelIdeal.GenP.hostOps7_25 (F := Ideal)) (n := 6) (by decide)))) rfl rfl rfl rfl (by decide) (by decide) (by decide) (c := Cert.KernelIdeal.main_call13_v1) (a := Cert.KernelIdeal.main_v389) (b := Cert.KernelIdeal.main_call13_v4) (y := Cert.KernelIdeal.main_v390) (f := (select : (⟨Cert.KernelIdeal.S2048x2048, .i1⟩ : BufTy).Contents (Elt Ideal) → (⟨Cert.KernelIdeal.S2048x2048, .f32⟩ : BufTy).Contents (Elt Ideal) → (⟨Cert.KernelIdeal.S2048x2048, .f32⟩ : BufTy).Contents (Elt Ideal) → (⟨Cert.KernelIdeal.S2048x2048, .f32⟩ : BufTy).Contents (Elt Ideal))) (hc := ⟨by decide, rfl⟩) (ha := ⟨by decide, rfl⟩) (hb := ⟨by decide, rfl⟩) (hy := ⟨by decide, rfl⟩)
  have hr := StableHlo.Ascending.eq_ternary (Cert.ReferenceIdeal.Hand.ops_asc (F := Ideal)) (StableHlo.launchContents m' c) (Cert.ReferenceIdeal.Hand.mem_ops_part31 (List.getElem_mem (l := Cert.ReferenceIdeal.Hand.ops_part31 (F := Ideal)) (n := 40) (by decide))) rfl rfl rfl rfl (by decide) (by decide) (by decide) (c := Cert.ReferenceIdeal.main_call71_v1) (a := Cert.ReferenceIdeal.main_v1557) (b := Cert.ReferenceIdeal.main_call71_v4) (y := Cert.ReferenceIdeal.main_v1558) (f := (select : (⟨Cert.ReferenceIdeal.S2048x2048, .i1⟩ : BufTy).Contents (Elt Ideal) → (⟨Cert.ReferenceIdeal.S2048x2048, .f32⟩ : BufTy).Contents (Elt Ideal) → (⟨Cert.ReferenceIdeal.S2048x2048, .f32⟩ : BufTy).Contents (Elt Ideal) → (⟨Cert.ReferenceIdeal.S2048x2048, .f32⟩ : BufTy).Contents (Elt Ideal))) (hc := ⟨by decide, rfl⟩) (ha := ⟨by decide, rfl⟩) (hb := ⟨by decide, rfl⟩) (hy := ⟨by decide, rfl⟩)
  rw [hk, hr, ← c_main_call13_v1__main_call71_v1 hag hel, ← c_main_v389__main_v1557 hag hel, ← c_main_call13_v4__main_call71_v4 hag hel]

theorem c_main_cst_72__main_cst_332 : StableHlo.after Cert.KernelIdeal.Hand.KOps (Cert.KernelIdeal.Hand.Wl (F := Ideal) m ρ c) (Proc.devRef .tc Cert.KernelIdeal.main_cst_72) = StableHlo.after (Cert.ReferenceIdeal.Hand.ops (F := Ideal)) (StableHlo.launchContents m' c) (Proc.devRef .tc Cert.ReferenceIdeal.main_cst_332) := by
  have hk := StableHlo.Ascending.eq_nullary Cert.KernelIdeal.Hand.KOps_asc (Cert.KernelIdeal.Hand.Wl m ρ c) (Cert.KernelIdeal.Hand.mem_KOps_st7 (Cert.KernelIdeal.Hand.mem_st_7_26 (List.getElem_mem (l := Cert.KernelIdeal.GenP.hostOps7_26 (F := Ideal)) (n := 0) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part31 (List.getElem_mem (l := Cert.ReferenceIdeal.Hand.ops_part31 (F := Ideal)) (n := 41) (by decide))) rfl (hy := ⟨by decide, rfl⟩)
  rw [hk, hr]

theorem c_main_v391__main_v1559 : StableHlo.after Cert.KernelIdeal.Hand.KOps (Cert.KernelIdeal.Hand.Wl (F := Ideal) m ρ c) (Proc.devRef .tc Cert.KernelIdeal.main_v391) = StableHlo.after (Cert.ReferenceIdeal.Hand.ops (F := Ideal)) (StableHlo.launchContents m' c) (Proc.devRef .tc Cert.ReferenceIdeal.main_v1559) := by
  have hk := StableHlo.Ascending.eq_binary Cert.KernelIdeal.Hand.KOps_asc (Cert.KernelIdeal.Hand.Wl m ρ c) (Cert.KernelIdeal.Hand.mem_KOps_st7 (Cert.KernelIdeal.Hand.mem_st_7_26 (List.getElem_mem (l := Cert.KernelIdeal.GenP.hostOps7_26 (F := Ideal)) (n := 1) (by decide)))) rfl rfl rfl (by decide) (by decide) (a := Cert.KernelIdeal.main_v196) (b := Cert.KernelIdeal.main_cst_72) (y := Cert.KernelIdeal.main_v391) (f := open Cert.KernelIdeal Cert.KernelIdeal.Gen in (fun x v => Host.reduce (FloatOps.minimumf (F := Ideal)) x v reducesTo_S2048x1_S_d0_1 h_S_)) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part31 (List.getElem_mem (l := Cert.ReferenceIdeal.Hand.ops_part31 (F := Ideal)) (n := 42) (by decide))) rfl rfl rfl (by decide) (by decide) (a := Cert.ReferenceIdeal.main_v1542) (b := Cert.ReferenceIdeal.main_cst_332) (y := Cert.ReferenceIdeal.main_v1559) (f := open Cert.ReferenceIdeal Cert.ReferenceIdeal.Gen in (fun x v => Host.reduce (FloatOps.minimumf (F := Ideal)) x v reducesTo_S2048x1_S_d0_1 h_S_)) (ha := ⟨by decide, rfl⟩) (hb := ⟨by decide, rfl⟩) (hy := ⟨by decide, rfl⟩)
  rw [hk, hr, ← c_main_v196__main_v1542 hag hel, ← c_main_cst_72__main_cst_332 hag hel]

theorem c_main_v392__main_v1560 : StableHlo.after Cert.KernelIdeal.Hand.KOps (Cert.KernelIdeal.Hand.Wl (F := Ideal) m ρ c) (Proc.devRef .tc Cert.KernelIdeal.main_v392) = StableHlo.after (Cert.ReferenceIdeal.Hand.ops (F := Ideal)) (StableHlo.launchContents m' c) (Proc.devRef .tc Cert.ReferenceIdeal.main_v1560) := by
  have hk := StableHlo.Ascending.eq_unary Cert.KernelIdeal.Hand.KOps_asc (Cert.KernelIdeal.Hand.Wl m ρ c) (Cert.KernelIdeal.Hand.mem_KOps_st7 (Cert.KernelIdeal.Hand.mem_st_7_26 (List.getElem_mem (l := Cert.KernelIdeal.GenP.hostOps7_26 (F := Ideal)) (n := 2) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part31 (List.getElem_mem (l := Cert.ReferenceIdeal.Hand.ops_part31 (F := Ideal)) (n := 43) (by decide))) rfl rfl (by decide) (hx := ⟨by decide, rfl⟩) (hy := ⟨by decide, rfl⟩)
  rw [hk, hr, ← c_main_v391__main_v1559 hag hel]

theorem c_main_v393__main_v1561 : StableHlo.after Cert.KernelIdeal.Hand.KOps (Cert.KernelIdeal.Hand.Wl (F := Ideal) m ρ c) (Proc.devRef .tc Cert.KernelIdeal.main_v393) = StableHlo.after (Cert.ReferenceIdeal.Hand.ops (F := Ideal)) (StableHlo.launchContents m' c) (Proc.devRef .tc Cert.ReferenceIdeal.main_v1561) := by
  have hk := StableHlo.Ascending.eq_binary Cert.KernelIdeal.Hand.KOps_asc (Cert.KernelIdeal.Hand.Wl m ρ c) (Cert.KernelIdeal.Hand.mem_KOps_st7 (Cert.KernelIdeal.Hand.mem_st_7_26 (List.getElem_mem (l := Cert.KernelIdeal.GenP.hostOps7_26 (F := Ideal)) (n := 3) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part31 (List.getElem_mem (l := Cert.ReferenceIdeal.Hand.ops_part31 (F := Ideal)) (n := 44) (by decide))) rfl rfl rfl (by decide) (by decide) (ha := ⟨by decide, rfl⟩) (hb := ⟨by decide, rfl⟩) (hy := ⟨by decide, rfl⟩)
  rw [hk, hr, ← c_main_v196__main_v1542 hag hel, ← c_main_v392__main_v1560 hag hel]

theorem c_main_cst_73__main_cst_333 : StableHlo.after Cert.KernelIdeal.Hand.KOps (Cert.KernelIdeal.Hand.Wl (F := Ideal) m ρ c) (Proc.devRef .tc Cert.KernelIdeal.main_cst_73) = StableHlo.after (Cert.ReferenceIdeal.Hand.ops (F := Ideal)) (StableHlo.launchContents m' c) (Proc.devRef .tc Cert.ReferenceIdeal.main_cst_333) := by
  have hk := StableHlo.Ascending.eq_nullary Cert.KernelIdeal.Hand.KOps_asc (Cert.KernelIdeal.Hand.Wl m ρ c) (Cert.KernelIdeal.Hand.mem_KOps_st7 (Cert.KernelIdeal.Hand.mem_st_7_26 (List.getElem_mem (l := Cert.KernelIdeal.GenP.hostOps7_26 (F := Ideal)) (n := 4) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part31 (List.getElem_mem (l := Cert.ReferenceIdeal.Hand.ops_part31 (F := Ideal)) (n := 45) (by decide))) rfl (hy := ⟨by decide, rfl⟩)
  rw [hk, hr]

theorem c_main_v394__main_v1562 : StableHlo.after Cert.KernelIdeal.Hand.KOps (Cert.KernelIdeal.Hand.Wl (F := Ideal) m ρ c) (Proc.devRef .tc Cert.KernelIdeal.main_v394) = StableHlo.after (Cert.ReferenceIdeal.Hand.ops (F := Ideal)) (StableHlo.launchContents m' c) (Proc.devRef .tc Cert.ReferenceIdeal.main_v1562) := by
  have hk := StableHlo.Ascending.eq_binary Cert.KernelIdeal.Hand.KOps_asc (Cert.KernelIdeal.Hand.Wl m ρ c) (Cert.KernelIdeal.Hand.mem_KOps_st7 (Cert.KernelIdeal.Hand.mem_st_7_26 (List.getElem_mem (l := Cert.KernelIdeal.GenP.hostOps7_26 (F := Ideal)) (n := 5) (by decide)))) rfl rfl rfl (by decide) (by decide) (a := Cert.KernelIdeal.main_v196) (b := Cert.KernelIdeal.main_cst_73) (y := Cert.KernelIdeal.main_v394) (f := open Cert.KernelIdeal Cert.KernelIdeal.Gen in (fun x v => Host.reduce (FloatOps.maximumf (F := Ideal)) x v reducesTo_S2048x1_S_d0_1 h_S_)) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part31 (List.getElem_mem (l := Cert.ReferenceIdeal.Hand.ops_part31 (F := Ideal)) (n := 46) (by decide))) rfl rfl rfl (by decide) (by decide) (a := Cert.ReferenceIdeal.main_v1542) (b := Cert.ReferenceIdeal.main_cst_333) (y := Cert.ReferenceIdeal.main_v1562) (f := open Cert.ReferenceIdeal Cert.ReferenceIdeal.Gen in (fun x v => Host.reduce (FloatOps.maximumf (F := Ideal)) x v reducesTo_S2048x1_S_d0_1 h_S_)) (ha := ⟨by decide, rfl⟩) (hb := ⟨by decide, rfl⟩) (hy := ⟨by decide, rfl⟩)
  rw [hk, hr, ← c_main_v196__main_v1542 hag hel, ← c_main_cst_73__main_cst_333 hag hel]

theorem c_main_cst_74__main_cst_334 : StableHlo.after Cert.KernelIdeal.Hand.KOps (Cert.KernelIdeal.Hand.Wl (F := Ideal) m ρ c) (Proc.devRef .tc Cert.KernelIdeal.main_cst_74) = StableHlo.after (Cert.ReferenceIdeal.Hand.ops (F := Ideal)) (StableHlo.launchContents m' c) (Proc.devRef .tc Cert.ReferenceIdeal.main_cst_334) := by
  have hk := StableHlo.Ascending.eq_nullary Cert.KernelIdeal.Hand.KOps_asc (Cert.KernelIdeal.Hand.Wl m ρ c) (Cert.KernelIdeal.Hand.mem_KOps_st7 (Cert.KernelIdeal.Hand.mem_st_7_26 (List.getElem_mem (l := Cert.KernelIdeal.GenP.hostOps7_26 (F := Ideal)) (n := 6) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part31 (List.getElem_mem (l := Cert.ReferenceIdeal.Hand.ops_part31 (F := Ideal)) (n := 47) (by decide))) rfl (hy := ⟨by decide, rfl⟩)
  rw [hk, hr]

theorem c_main_v395__main_v1563 : StableHlo.after Cert.KernelIdeal.Hand.KOps (Cert.KernelIdeal.Hand.Wl (F := Ideal) m ρ c) (Proc.devRef .tc Cert.KernelIdeal.main_v395) = StableHlo.after (Cert.ReferenceIdeal.Hand.ops (F := Ideal)) (StableHlo.launchContents m' c) (Proc.devRef .tc Cert.ReferenceIdeal.main_v1563) := by
  have hk := StableHlo.Ascending.eq_binary Cert.KernelIdeal.Hand.KOps_asc (Cert.KernelIdeal.Hand.Wl m ρ c) (Cert.KernelIdeal.Hand.mem_KOps_st7 (Cert.KernelIdeal.Hand.mem_st_7_26 (List.getElem_mem (l := Cert.KernelIdeal.GenP.hostOps7_26 (F := Ideal)) (n := 7) (by decide)))) rfl rfl rfl (by decide) (by decide) (a := Cert.KernelIdeal.main_v196) (b := Cert.KernelIdeal.main_cst_74) (y := Cert.KernelIdeal.main_v395) (f := open Cert.KernelIdeal Cert.KernelIdeal.Gen in (fun x v => Host.reduce (FloatOps.minimumf (F := Ideal)) x v reducesTo_S2048x1_S_d0_1 h_S_)) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part31 (List.getElem_mem (l := Cert.ReferenceIdeal.Hand.ops_part31 (F := Ideal)) (n := 48) (by decide))) rfl rfl rfl (by decide) (by decide) (a := Cert.ReferenceIdeal.main_v1542) (b := Cert.ReferenceIdeal.main_cst_334) (y := Cert.ReferenceIdeal.main_v1563) (f := open Cert.ReferenceIdeal Cert.ReferenceIdeal.Gen in (fun x v => Host.reduce (FloatOps.minimumf (F := Ideal)) x v reducesTo_S2048x1_S_d0_1 h_S_)) (ha := ⟨by decide, rfl⟩) (hb := ⟨by decide, rfl⟩) (hy := ⟨by decide, rfl⟩)
  rw [hk, hr, ← c_main_v196__main_v1542 hag hel, ← c_main_cst_74__main_cst_334 hag hel]

theorem c_main_v396__main_v1564 : StableHlo.after Cert.KernelIdeal.Hand.KOps (Cert.KernelIdeal.Hand.Wl (F := Ideal) m ρ c) (Proc.devRef .tc Cert.KernelIdeal.main_v396) = StableHlo.after (Cert.ReferenceIdeal.Hand.ops (F := Ideal)) (StableHlo.launchContents m' c) (Proc.devRef .tc Cert.ReferenceIdeal.main_v1564) := by
  have hk := StableHlo.Ascending.eq_binary Cert.KernelIdeal.Hand.KOps_asc (Cert.KernelIdeal.Hand.Wl m ρ c) (Cert.KernelIdeal.Hand.mem_KOps_st7 (Cert.KernelIdeal.Hand.mem_st_7_26 (List.getElem_mem (l := Cert.KernelIdeal.GenP.hostOps7_26 (F := Ideal)) (n := 8) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part31 (List.getElem_mem (l := Cert.ReferenceIdeal.Hand.ops_part31 (F := Ideal)) (n := 49) (by decide))) rfl rfl rfl (by decide) (by decide) (ha := ⟨by decide, rfl⟩) (hb := ⟨by decide, rfl⟩) (hy := ⟨by decide, rfl⟩)
  rw [hk, hr, ← c_main_v394__main_v1562 hag hel, ← c_main_v395__main_v1563 hag hel]

theorem c_main_v397__main_v1565 : StableHlo.after Cert.KernelIdeal.Hand.KOps (Cert.KernelIdeal.Hand.Wl (F := Ideal) m ρ c) (Proc.devRef .tc Cert.KernelIdeal.main_v397) = StableHlo.after (Cert.ReferenceIdeal.Hand.ops (F := Ideal)) (StableHlo.launchContents m' c) (Proc.devRef .tc Cert.ReferenceIdeal.main_v1565) := by
  have hk := StableHlo.Ascending.eq_unary Cert.KernelIdeal.Hand.KOps_asc (Cert.KernelIdeal.Hand.Wl m ρ c) (Cert.KernelIdeal.Hand.mem_KOps_st7 (Cert.KernelIdeal.Hand.mem_st_7_26 (List.getElem_mem (l := Cert.KernelIdeal.GenP.hostOps7_26 (F := Ideal)) (n := 9) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part31 (List.getElem_mem (l := Cert.ReferenceIdeal.Hand.ops_part31 (F := Ideal)) (n := 50) (by decide))) rfl rfl (by decide) (hx := ⟨by decide, rfl⟩) (hy := ⟨by decide, rfl⟩)
  rw [hk, hr, ← c_main_v396__main_v1564 hag hel]

theorem c_main_v398__main_v1566 : StableHlo.after Cert.KernelIdeal.Hand.KOps (Cert.KernelIdeal.Hand.Wl (F := Ideal) m ρ c) (Proc.devRef .tc Cert.KernelIdeal.main_v398) = StableHlo.after (Cert.ReferenceIdeal.Hand.ops (F := Ideal)) (StableHlo.launchContents m' c) (Proc.devRef .tc Cert.ReferenceIdeal.main_v1566) := by
  have hk := StableHlo.Ascending.eq_binary Cert.KernelIdeal.Hand.KOps_asc (Cert.KernelIdeal.Hand.Wl m ρ c) (Cert.KernelIdeal.Hand.mem_KOps_st7 (Cert.KernelIdeal.Hand.mem_st_7_26 (List.getElem_mem (l := Cert.KernelIdeal.GenP.hostOps7_26 (F := Ideal)) (n := 10) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part31 (List.getElem_mem (l := Cert.ReferenceIdeal.Hand.ops_part31 (F := Ideal)) (n := 51) (by decide))) rfl rfl rfl (by decide) (by decide) (ha := ⟨by decide, rfl⟩) (hb := ⟨by decide, rfl⟩) (hy := ⟨by decide, rfl⟩)
  rw [hk, hr, ← c_main_v393__main_v1561 hag hel, ← c_main_v397__main_v1565 hag hel]

theorem c_main_cst_75__main_cst_335 : StableHlo.after Cert.KernelIdeal.Hand.KOps (Cert.KernelIdeal.Hand.Wl (F := Ideal) m ρ c) (Proc.devRef .tc Cert.KernelIdeal.main_cst_75) = StableHlo.after (Cert.ReferenceIdeal.Hand.ops (F := Ideal)) (StableHlo.launchContents m' c) (Proc.devRef .tc Cert.ReferenceIdeal.main_cst_335) := by
  have hk := StableHlo.Ascending.eq_nullary Cert.KernelIdeal.Hand.KOps_asc (Cert.KernelIdeal.Hand.Wl m ρ c) (Cert.KernelIdeal.Hand.mem_KOps_st7 (Cert.KernelIdeal.Hand.mem_st_7_26 (List.getElem_mem (l := Cert.KernelIdeal.GenP.hostOps7_26 (F := Ideal)) (n := 11) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part31 (List.getElem_mem (l := Cert.ReferenceIdeal.Hand.ops_part31 (F := Ideal)) (n := 52) (by decide))) rfl (hy := ⟨by decide, rfl⟩)
  rw [hk, hr]

theorem c_main_v399__main_v1567 : StableHlo.after Cert.KernelIdeal.Hand.KOps (Cert.KernelIdeal.Hand.Wl (F := Ideal) m ρ c) (Proc.devRef .tc Cert.KernelIdeal.main_v399) = StableHlo.after (Cert.ReferenceIdeal.Hand.ops (F := Ideal)) (StableHlo.launchContents m' c) (Proc.devRef .tc Cert.ReferenceIdeal.main_v1567) := by
  have hk := StableHlo.Ascending.eq_binary Cert.KernelIdeal.Hand.KOps_asc (Cert.KernelIdeal.Hand.Wl m ρ c) (Cert.KernelIdeal.Hand.mem_KOps_st7 (Cert.KernelIdeal.Hand.mem_st_7_26 (List.getElem_mem (l := Cert.KernelIdeal.GenP.hostOps7_26 (F := Ideal)) (n := 12) (by decide)))) rfl rfl rfl (by decide) (by decide) (a := Cert.KernelIdeal.main_v390) (b := Cert.KernelIdeal.main_cst_75) (y := Cert.KernelIdeal.main_v399) (f := open Cert.KernelIdeal Cert.KernelIdeal.Gen in (fun x v => Host.reduce (FloatOps.maximumf (F := Ideal)) x v reducesTo_S2048x2048_S_d0_1 h_S_)) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part31 (List.getElem_mem (l := Cert.ReferenceIdeal.Hand.ops_part31 (F := Ideal)) (n := 53) (by decide))) rfl rfl rfl (by decide) (by decide) (a := Cert.ReferenceIdeal.main_v1558) (b := Cert.ReferenceIdeal.main_cst_335) (y := Cert.ReferenceIdeal.main_v1567) (f := open Cert.ReferenceIdeal Cert.ReferenceIdeal.Gen in (fun x v => Host.reduce (FloatOps.maximumf (F := Ideal)) x v reducesTo_S2048x2048_S_d0_1 h_S_)) (ha := ⟨by decide, rfl⟩) (hb := ⟨by decide, rfl⟩) (hy := ⟨by decide, rfl⟩)
  rw [hk, hr, ← c_main_v390__main_v1558 hag hel, ← c_main_cst_75__main_cst_335 hag hel]

theorem c_main_v400__main_v1568 : StableHlo.after Cert.KernelIdeal.Hand.KOps (Cert.KernelIdeal.Hand.Wl (F := Ideal) m ρ c) (Proc.devRef .tc Cert.KernelIdeal.main_v400) = StableHlo.after (Cert.ReferenceIdeal.Hand.ops (F := Ideal)) (StableHlo.launchContents m' c) (Proc.devRef .tc Cert.ReferenceIdeal.main_v1568) := by
  have hk := StableHlo.Ascending.eq_unary Cert.KernelIdeal.Hand.KOps_asc (Cert.KernelIdeal.Hand.Wl m ρ c) (Cert.KernelIdeal.Hand.mem_KOps_st7 (Cert.KernelIdeal.Hand.mem_st_7_26 (List.getElem_mem (l := Cert.KernelIdeal.GenP.hostOps7_26 (F := Ideal)) (n := 13) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part31 (List.getElem_mem (l := Cert.ReferenceIdeal.Hand.ops_part31 (F := Ideal)) (n := 54) (by decide))) rfl rfl (by decide) (hx := ⟨by decide, rfl⟩) (hy := ⟨by decide, rfl⟩)
  rw [hk, hr, ← c_main_v399__main_v1567 hag hel]

end Cert.Value

end
-- ==== Proof.Val.C012.lean ====
/- Steps C012 of the value claim's chain: for each listed pair, the kernel program's buffer and its reference twin hold equal contents at the two programs' final
   valuations — the two operations are the same function (read off the two operation lists) of operands already paired. A table; written by: bun scratch/corr.js 60 -/
import proofs.«146970_j35948876268088_1_alg».proof.Proof.Val.Seed
import proofs.«146970_j35948876268088_1_alg».proof.Proof.KI.Dots
import Mathlib.Tactic.FinCases
import proofs.«146970_j35948876268088_1_alg».proof.Proof.Val.C000
import proofs.«146970_j35948876268088_1_alg».proof.Proof.Val.C001
import proofs.«146970_j35948876268088_1_alg».proof.Proof.Val.C011

set_option maxRecDepth 16384

noncomputable section

namespace Cert.Value

open Idealize.ShloMosaic Idealize.ShloMosaic.TcCoe Idealize.SL.Sem

variable {m : (ℓ : Loc Cert.KernelIdeal.nD Cert.KernelIdeal.τ Cert.KernelIdeal.sig) → Buf (Elt Ideal) ℓ} {ρ : Dev Cert.KernelIdeal.nD → PrngReg}
  {m' : (ℓ : Loc Cert.ReferenceIdeal.nD Cert.ReferenceIdeal.τ Cert.ReferenceIdeal.sig) → Buf (Elt Ideal) ℓ} {c : Dev Cert.KernelIdeal.nD} (hag : Agree m m') (hel : Els m' c)
include hag hel

theorem c_main_v401__main_v1569 : StableHlo.after Cert.KernelIdeal.Hand.KOps (Cert.KernelIdeal.Hand.Wl (F := Ideal) m ρ c) (Proc.devRef .tc Cert.KernelIdeal.main_v401) = StableHlo.after (Cert.ReferenceIdeal.Hand.ops (F := Ideal)) (StableHlo.launchContents m' c) (Proc.devRef .tc Cert.ReferenceIdeal.main_v1569) := by
  have hk := StableHlo.Ascending.eq_binary Cert.KernelIdeal.Hand.KOps_asc (Cert.KernelIdeal.Hand.Wl m ρ c) (Cert.KernelIdeal.Hand.mem_KOps_st7 (Cert.KernelIdeal.Hand.mem_st_7_26 (List.getElem_mem (l := Cert.KernelIdeal.GenP.hostOps7_26 (F := Ideal)) (n := 14) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part31 (List.getElem_mem (l := Cert.ReferenceIdeal.Hand.ops_part31 (F := Ideal)) (n := 55) (by decide))) rfl rfl rfl (by decide) (by decide) (ha := ⟨by decide, rfl⟩) (hb := ⟨by decide, rfl⟩) (hy := ⟨by decide, rfl⟩)
  rw [hk, hr, ← c_main_v398__main_v1566 hag hel, ← c_main_v400__main_v1568 hag hel]

theorem c_main_cst_76__main_cst_336 : StableHlo.after Cert.KernelIdeal.Hand.KOps (Cert.KernelIdeal.Hand.Wl (F := Ideal) m ρ c) (Proc.devRef .tc Cert.KernelIdeal.main_cst_76) = StableHlo.after (Cert.ReferenceIdeal.Hand.ops (F := Ideal)) (StableHlo.launchContents m' c) (Proc.devRef .tc Cert.ReferenceIdeal.main_cst_336) := by
  have hk := StableHlo.Ascending.eq_nullary Cert.KernelIdeal.Hand.KOps_asc (Cert.KernelIdeal.Hand.Wl m ρ c) (Cert.KernelIdeal.Hand.mem_KOps_st7 (Cert.KernelIdeal.Hand.mem_st_7_26 (List.getElem_mem (l := Cert.KernelIdeal.GenP.hostOps7_26 (F := Ideal)) (n := 15) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part31 (List.getElem_mem (l := Cert.ReferenceIdeal.Hand.ops_part31 (F := Ideal)) (n := 56) (by decide))) rfl (hy := ⟨by decide, rfl⟩)
  rw [hk, hr]

theorem c_main_v402__main_v1570 : StableHlo.after Cert.KernelIdeal.Hand.KOps (Cert.KernelIdeal.Hand.Wl (F := Ideal) m ρ c) (Proc.devRef .tc Cert.KernelIdeal.main_v402) = StableHlo.after (Cert.ReferenceIdeal.Hand.ops (F := Ideal)) (StableHlo.launchContents m' c) (Proc.devRef .tc Cert.ReferenceIdeal.main_v1570) := by
  have hk := StableHlo.Ascending.eq_unary Cert.KernelIdeal.Hand.KOps_asc (Cert.KernelIdeal.Hand.Wl m ρ c) (Cert.KernelIdeal.Hand.mem_KOps_st7 (Cert.KernelIdeal.Hand.mem_st_7_26 (List.getElem_mem (l := Cert.KernelIdeal.GenP.hostOps7_26 (F := Ideal)) (n := 16) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part31 (List.getElem_mem (l := Cert.ReferenceIdeal.Hand.ops_part31 (F := Ideal)) (n := 57) (by decide))) rfl rfl (by decide) (hx := ⟨by decide, rfl⟩) (hy := ⟨by decide, rfl⟩)
  rw [hk, hr, ← c_main_cst_76__main_cst_336 hag hel]

theorem c_main_v403__main_v1571 : StableHlo.after Cert.KernelIdeal.Hand.KOps (Cert.KernelIdeal.Hand.Wl (F := Ideal) m ρ c) (Proc.devRef .tc Cert.KernelIdeal.main_v403) = StableHlo.after (Cert.ReferenceIdeal.Hand.ops (F := Ideal)) (StableHlo.launchContents m' c) (Proc.devRef .tc Cert.ReferenceIdeal.main_v1571) := by
  have hk := StableHlo.Ascending.eq_binary Cert.KernelIdeal.Hand.KOps_asc (Cert.KernelIdeal.Hand.Wl m ρ c) (Cert.KernelIdeal.Hand.mem_KOps_st7 (Cert.KernelIdeal.Hand.mem_st_7_26 (List.getElem_mem (l := Cert.KernelIdeal.GenP.hostOps7_26 (F := Ideal)) (n := 17) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part31 (List.getElem_mem (l := Cert.ReferenceIdeal.Hand.ops_part31 (F := Ideal)) (n := 58) (by decide))) rfl rfl rfl (by decide) (by decide) (ha := ⟨by decide, rfl⟩) (hb := ⟨by decide, rfl⟩) (hy := ⟨by decide, rfl⟩)
  rw [hk, hr, ← c_main_v24__main_v122 hag hel, ← c_main_v402__main_v1570 hag hel]

theorem c_main_v404__main_v1572 : StableHlo.after Cert.KernelIdeal.Hand.KOps (Cert.KernelIdeal.Hand.Wl (F := Ideal) m ρ c) (Proc.devRef .tc Cert.KernelIdeal.main_v404) = StableHlo.after (Cert.ReferenceIdeal.Hand.ops (F := Ideal)) (StableHlo.launchContents m' c) (Proc.devRef .tc Cert.ReferenceIdeal.main_v1572) := by
  have hk := StableHlo.Ascending.eq_unary Cert.KernelIdeal.Hand.KOps_asc (Cert.KernelIdeal.Hand.Wl m ρ c) (Cert.KernelIdeal.Hand.mem_KOps_st7 (Cert.KernelIdeal.Hand.mem_st_7_26 (List.getElem_mem (l := Cert.KernelIdeal.GenP.hostOps7_26 (F := Ideal)) (n := 18) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part31 (List.getElem_mem (l := Cert.ReferenceIdeal.Hand.ops_part31 (F := Ideal)) (n := 59) (by decide))) rfl rfl (by decide) (hx := ⟨by decide, rfl⟩) (hy := ⟨by decide, rfl⟩)
  rw [hk, hr, ← c_main_v401__main_v1569 hag hel]

theorem c_main_v405__main_v1573 : StableHlo.after Cert.KernelIdeal.Hand.KOps (Cert.KernelIdeal.Hand.Wl (F := Ideal) m ρ c) (Proc.devRef .tc Cert.KernelIdeal.main_v405) = StableHlo.after (Cert.ReferenceIdeal.Hand.ops (F := Ideal)) (StableHlo.launchContents m' c) (Proc.devRef .tc Cert.ReferenceIdeal.main_v1573) := by
  have hk := StableHlo.Ascending.eq_binary Cert.KernelIdeal.Hand.KOps_asc (Cert.KernelIdeal.Hand.Wl m ρ c) (Cert.KernelIdeal.Hand.mem_KOps_st7 (Cert.KernelIdeal.Hand.mem_st_7_26 (List.getElem_mem (l := Cert.KernelIdeal.GenP.hostOps7_26 (F := Ideal)) (n := 19) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part31 (List.getElem_mem (l := Cert.ReferenceIdeal.Hand.ops_part31 (F := Ideal)) (n := 60) (by decide))) rfl rfl rfl (by decide) (by decide) (ha := ⟨by decide, rfl⟩) (hb := ⟨by decide, rfl⟩) (hy := ⟨by decide, rfl⟩)
  rw [hk, hr, ← c_main_v390__main_v1558 hag hel, ← c_main_v404__main_v1572 hag hel]

theorem c_main_cst_77__main_cst_337 : StableHlo.after Cert.KernelIdeal.Hand.KOps (Cert.KernelIdeal.Hand.Wl (F := Ideal) m ρ c) (Proc.devRef .tc Cert.KernelIdeal.main_cst_77) = StableHlo.after (Cert.ReferenceIdeal.Hand.ops (F := Ideal)) (StableHlo.launchContents m' c) (Proc.devRef .tc Cert.ReferenceIdeal.main_cst_337) := by
  have hk := StableHlo.Ascending.eq_nullary Cert.KernelIdeal.Hand.KOps_asc (Cert.KernelIdeal.Hand.Wl m ρ c) (Cert.KernelIdeal.Hand.mem_KOps_st7 (Cert.KernelIdeal.Hand.mem_st_7_26 (List.getElem_mem (l := Cert.KernelIdeal.GenP.hostOps7_26 (F := Ideal)) (n := 20) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part31 (List.getElem_mem (l := Cert.ReferenceIdeal.Hand.ops_part31 (F := Ideal)) (n := 61) (by decide))) rfl (hy := ⟨by decide, rfl⟩)
  rw [hk, hr]

theorem c_main_call14_v0__main_call72_v0 : StableHlo.after Cert.KernelIdeal.Hand.KOps (Cert.KernelIdeal.Hand.Wl (F := Ideal) m ρ c) (Proc.devRef .tc Cert.KernelIdeal.main_call14_v0) = StableHlo.after (Cert.ReferenceIdeal.Hand.ops (F := Ideal)) (StableHlo.launchContents m' c) (Proc.devRef .tc Cert.ReferenceIdeal.main_call72_v0) := by
  have hk := StableHlo.Ascending.eq_unary Cert.KernelIdeal.Hand.KOps_asc (Cert.KernelIdeal.Hand.Wl m ρ c) (Cert.KernelIdeal.Hand.mem_KOps_st7 (Cert.KernelIdeal.Hand.mem_st_7_27 (List.getElem_mem (l := Cert.KernelIdeal.GenP.hostOps7_27 (F := Ideal)) (n := 0) (by decide)))) rfl rfl (by decide) (x := Cert.KernelIdeal.main_cst_77) (y := Cert.KernelIdeal.main_call14_v0) (f := open Cert.KernelIdeal Cert.KernelIdeal.Gen in id) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part31 (List.getElem_mem (l := Cert.ReferenceIdeal.Hand.ops_part31 (F := Ideal)) (n := 62) (by decide))) rfl rfl (by decide) (x := Cert.ReferenceIdeal.main_cst_337) (y := Cert.ReferenceIdeal.main_call72_v0) (f := open Cert.ReferenceIdeal Cert.ReferenceIdeal.Gen in id) (hx := ⟨by decide, rfl⟩) (hy := ⟨by decide, rfl⟩)
  rw [hk, hr, ← c_main_cst_77__main_cst_337 hag hel]

theorem c_main_call14_v1__main_call72_v1 : StableHlo.after Cert.KernelIdeal.Hand.KOps (Cert.KernelIdeal.Hand.Wl (F := Ideal) m ρ c) (Proc.devRef .tc Cert.KernelIdeal.main_call14_v1) = StableHlo.after (Cert.ReferenceIdeal.Hand.ops (F := Ideal)) (StableHlo.launchContents m' c) (Proc.devRef .tc Cert.ReferenceIdeal.main_call72_v1) := by
  have hk := StableHlo.Ascending.eq_unary Cert.KernelIdeal.Hand.KOps_asc (Cert.KernelIdeal.Hand.Wl m ρ c) (Cert.KernelIdeal.Hand.mem_KOps_st7 (Cert.KernelIdeal.Hand.mem_st_7_27 (List.getElem_mem (l := Cert.KernelIdeal.GenP.hostOps7_27 (F := Ideal)) (n := 1) (by decide)))) rfl rfl (by decide) (x := Cert.KernelIdeal.main_call14_v0) (y := Cert.KernelIdeal.main_call14_v1) (f := open Cert.KernelIdeal Cert.KernelIdeal.Gen in (broadcastInDim S2048x2048 ![] bcast_S_S2048x2048)) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part31 (List.getElem_mem (l := Cert.ReferenceIdeal.Hand.ops_part31 (F := Ideal)) (n := 63) (by decide))) rfl rfl (by decide) (x := Cert.ReferenceIdeal.main_call72_v0) (y := Cert.ReferenceIdeal.main_call72_v1) (f := open Cert.ReferenceIdeal Cert.ReferenceIdeal.Gen in (broadcastInDim S2048x2048 ![] bcast_S_S2048x2048)) (hx := ⟨by decide, rfl⟩) (hy := ⟨by decide, rfl⟩)
  rw [hk, hr, ← c_main_call14_v0__main_call72_v0 hag hel]

theorem c_main_v406__main_v1574 : StableHlo.after Cert.KernelIdeal.Hand.KOps (Cert.KernelIdeal.Hand.Wl (F := Ideal) m ρ c) (Proc.devRef .tc Cert.KernelIdeal.main_v406) = StableHlo.after (Cert.ReferenceIdeal.Hand.ops (F := Ideal)) (StableHlo.launchContents m' c) (Proc.devRef .tc Cert.ReferenceIdeal.main_v1574) := by
  have hk := StableHlo.Ascending.eq_ternary Cert.KernelIdeal.Hand.KOps_asc (Cert.KernelIdeal.Hand.Wl m ρ c) (Cert.KernelIdeal.Hand.mem_KOps_st7 (Cert.KernelIdeal.Hand.mem_st_7_27 (List.getElem_mem (l := Cert.KernelIdeal.GenP.hostOps7_27 (F := Ideal)) (n := 2) (by decide)))) rfl rfl rfl rfl (by decide) (by decide) (by decide) (c := Cert.KernelIdeal.main_v403) (a := Cert.KernelIdeal.main_v405) (b := Cert.KernelIdeal.main_call14_v1) (y := Cert.KernelIdeal.main_v406) (f := (select : (⟨Cert.KernelIdeal.S2048x2048, .i1⟩ : BufTy).Contents (Elt Ideal) → (⟨Cert.KernelIdeal.S2048x2048, .f32⟩ : BufTy).Contents (Elt Ideal) → (⟨Cert.KernelIdeal.S2048x2048, .f32⟩ : BufTy).Contents (Elt Ideal) → (⟨Cert.KernelIdeal.S2048x2048, .f32⟩ : BufTy).Contents (Elt Ideal))) (hc := ⟨by decide, rfl⟩) (ha := ⟨by decide, rfl⟩) (hb := ⟨by decide, rfl⟩) (hy := ⟨by decide, rfl⟩)
  have hr := StableHlo.Ascending.eq_ternary (Cert.ReferenceIdeal.Hand.ops_asc (F := Ideal)) (StableHlo.launchContents m' c) (Cert.ReferenceIdeal.Hand.mem_ops_part31 (List.getElem_mem (l := Cert.ReferenceIdeal.Hand.ops_part31 (F := Ideal)) (n := 64) (by decide))) rfl rfl rfl rfl (by decide) (by decide) (by decide) (c := Cert.ReferenceIdeal.main_v1571) (a := Cert.ReferenceIdeal.main_v1573) (b := Cert.ReferenceIdeal.main_call72_v1) (y := Cert.ReferenceIdeal.main_v1574) (f := (select : (⟨Cert.ReferenceIdeal.S2048x2048, .i1⟩ : BufTy).Contents (Elt Ideal) → (⟨Cert.ReferenceIdeal.S2048x2048, .f32⟩ : BufTy).Contents (Elt Ideal) → (⟨Cert.ReferenceIdeal.S2048x2048, .f32⟩ : BufTy).Contents (Elt Ideal) → (⟨Cert.ReferenceIdeal.S2048x2048, .f32⟩ : BufTy).Contents (Elt Ideal))) (hc := ⟨by decide, rfl⟩) (ha := ⟨by decide, rfl⟩) (hb := ⟨by decide, rfl⟩) (hy := ⟨by decide, rfl⟩)
  rw [hk, hr, ← c_main_v403__main_v1571 hag hel, ← c_main_v405__main_v1573 hag hel, ← c_main_call14_v1__main_call72_v1 hag hel]

theorem c_main_cst_78__main_cst_338 : StableHlo.after Cert.KernelIdeal.Hand.KOps (Cert.KernelIdeal.Hand.Wl (F := Ideal) m ρ c) (Proc.devRef .tc Cert.KernelIdeal.main_cst_78) = StableHlo.after (Cert.ReferenceIdeal.Hand.ops (F := Ideal)) (StableHlo.launchContents m' c) (Proc.devRef .tc Cert.ReferenceIdeal.main_cst_338) := by
  have hk := StableHlo.Ascending.eq_nullary Cert.KernelIdeal.Hand.KOps_asc (Cert.KernelIdeal.Hand.Wl m ρ c) (Cert.KernelIdeal.Hand.mem_KOps_st7 (Cert.KernelIdeal.Hand.mem_st_7_28 (List.getElem_mem (l := Cert.KernelIdeal.GenP.hostOps7_28 (F := Ideal)) (n := 0) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part31 (List.getElem_mem (l := Cert.ReferenceIdeal.Hand.ops_part31 (F := Ideal)) (n := 65) (by decide))) rfl (hy := ⟨by decide, rfl⟩)
  rw [hk, hr]

theorem c_main_v407__main_v1575 : StableHlo.after Cert.KernelIdeal.Hand.KOps (Cert.KernelIdeal.Hand.Wl (F := Ideal) m ρ c) (Proc.devRef .tc Cert.KernelIdeal.main_v407) = StableHlo.after (Cert.ReferenceIdeal.Hand.ops (F := Ideal)) (StableHlo.launchContents m' c) (Proc.devRef .tc Cert.ReferenceIdeal.main_v1575) := by
  have hk := StableHlo.Ascending.eq_binary Cert.KernelIdeal.Hand.KOps_asc (Cert.KernelIdeal.Hand.Wl m ρ c) (Cert.KernelIdeal.Hand.mem_KOps_st7 (Cert.KernelIdeal.Hand.mem_st_7_28 (List.getElem_mem (l := Cert.KernelIdeal.GenP.hostOps7_28 (F := Ideal)) (n := 1) (by decide)))) rfl rfl rfl (by decide) (by decide) (a := Cert.KernelIdeal.main_v406) (b := Cert.KernelIdeal.main_cst_78) (y := Cert.KernelIdeal.main_v407) (f := open Cert.KernelIdeal Cert.KernelIdeal.Gen in (fun x v => Host.reduce (FloatOps.maximumf (F := Ideal)) x v reducesTo_S2048x2048_S2048_d1 h_S_)) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part31 (List.getElem_mem (l := Cert.ReferenceIdeal.Hand.ops_part31 (F := Ideal)) (n := 66) (by decide))) rfl rfl rfl (by decide) (by decide) (a := Cert.ReferenceIdeal.main_v1574) (b := Cert.ReferenceIdeal.main_cst_338) (y := Cert.ReferenceIdeal.main_v1575) (f := open Cert.ReferenceIdeal Cert.ReferenceIdeal.Gen in (fun x v => Host.reduce (FloatOps.maximumf (F := Ideal)) x v reducesTo_S2048x2048_S2048_d1 h_S_)) (ha := ⟨by decide, rfl⟩) (hb := ⟨by decide, rfl⟩) (hy := ⟨by decide, rfl⟩)
  rw [hk, hr, ← c_main_v406__main_v1574 hag hel, ← c_main_cst_78__main_cst_338 hag hel]

theorem c_main_cst_79__main_cst_339 : StableHlo.after Cert.KernelIdeal.Hand.KOps (Cert.KernelIdeal.Hand.Wl (F := Ideal) m ρ c) (Proc.devRef .tc Cert.KernelIdeal.main_cst_79) = StableHlo.after (Cert.ReferenceIdeal.Hand.ops (F := Ideal)) (StableHlo.launchContents m' c) (Proc.devRef .tc Cert.ReferenceIdeal.main_cst_339) := by
  have hk := StableHlo.Ascending.eq_nullary Cert.KernelIdeal.Hand.KOps_asc (Cert.KernelIdeal.Hand.Wl m ρ c) (Cert.KernelIdeal.Hand.mem_KOps_st7 (Cert.KernelIdeal.Hand.mem_st_7_28 (List.getElem_mem (l := Cert.KernelIdeal.GenP.hostOps7_28 (F := Ideal)) (n := 2) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part31 (List.getElem_mem (l := Cert.ReferenceIdeal.Hand.ops_part31 (F := Ideal)) (n := 67) (by decide))) rfl (hy := ⟨by decide, rfl⟩)
  rw [hk, hr]

theorem c_main_v408__main_v1576 : StableHlo.after Cert.KernelIdeal.Hand.KOps (Cert.KernelIdeal.Hand.Wl (F := Ideal) m ρ c) (Proc.devRef .tc Cert.KernelIdeal.main_v408) = StableHlo.after (Cert.ReferenceIdeal.Hand.ops (F := Ideal)) (StableHlo.launchContents m' c) (Proc.devRef .tc Cert.ReferenceIdeal.main_v1576) := by
  have hk := StableHlo.Ascending.eq_unary Cert.KernelIdeal.Hand.KOps_asc (Cert.KernelIdeal.Hand.Wl m ρ c) (Cert.KernelIdeal.Hand.mem_KOps_st7 (Cert.KernelIdeal.Hand.mem_st_7_28 (List.getElem_mem (l := Cert.KernelIdeal.GenP.hostOps7_28 (F := Ideal)) (n := 3) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part31 (List.getElem_mem (l := Cert.ReferenceIdeal.Hand.ops_part31 (F := Ideal)) (n := 68) (by decide))) rfl rfl (by decide) (hx := ⟨by decide, rfl⟩) (hy := ⟨by decide, rfl⟩)
  rw [hk, hr, ← c_main_cst_79__main_cst_339 hag hel]

theorem c_main_v409__main_v1577 : StableHlo.after Cert.KernelIdeal.Hand.KOps (Cert.KernelIdeal.Hand.Wl (F := Ideal) m ρ c) (Proc.devRef .tc Cert.KernelIdeal.main_v409) = StableHlo.after (Cert.ReferenceIdeal.Hand.ops (F := Ideal)) (StableHlo.launchContents m' c) (Proc.devRef .tc Cert.ReferenceIdeal.main_v1577) := by
  have hk := StableHlo.Ascending.eq_binary Cert.KernelIdeal.Hand.KOps_asc (Cert.KernelIdeal.Hand.Wl m ρ c) (Cert.KernelIdeal.Hand.mem_KOps_st7 (Cert.KernelIdeal.Hand.mem_st_7_28 (List.getElem_mem (l := Cert.KernelIdeal.GenP.hostOps7_28 (F := Ideal)) (n := 4) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part31 (List.getElem_mem (l := Cert.ReferenceIdeal.Hand.ops_part31 (F := Ideal)) (n := 69) (by decide))) rfl rfl rfl (by decide) (by decide) (ha := ⟨by decide, rfl⟩) (hb := ⟨by decide, rfl⟩) (hy := ⟨by decide, rfl⟩)
  rw [hk, hr, ← c_main_v408__main_v1576 hag hel, ← c_main_v407__main_v1575 hag hel]

theorem c_main_v410__main_v1578 : StableHlo.after Cert.KernelIdeal.Hand.KOps (Cert.KernelIdeal.Hand.Wl (F := Ideal) m ρ c) (Proc.devRef .tc Cert.KernelIdeal.main_v410) = StableHlo.after (Cert.ReferenceIdeal.Hand.ops (F := Ideal)) (StableHlo.launchContents m' c) (Proc.devRef .tc Cert.ReferenceIdeal.main_v1578) := by
  have hk := StableHlo.Ascending.eq_unary Cert.KernelIdeal.Hand.KOps_asc (Cert.KernelIdeal.Hand.Wl m ρ c) (Cert.KernelIdeal.Hand.mem_KOps_st7 (Cert.KernelIdeal.Hand.mem_st_7_28 (List.getElem_mem (l := Cert.KernelIdeal.GenP.hostOps7_28 (F := Ideal)) (n := 5) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part32 (List.getElem_mem (l := Cert.ReferenceIdeal.Hand.ops_part32 (F := Ideal)) (n := 0) (by decide))) rfl rfl (by decide) (hx := ⟨by decide, rfl⟩) (hy := ⟨by decide, rfl⟩)
  rw [hk, hr, ← c_main_v409__main_v1577 hag hel]

theorem c_main_v411__main_v1579 : StableHlo.after Cert.KernelIdeal.Hand.KOps (Cert.KernelIdeal.Hand.Wl (F := Ideal) m ρ c) (Proc.devRef .tc Cert.KernelIdeal.main_v411) = StableHlo.after (Cert.ReferenceIdeal.Hand.ops (F := Ideal)) (StableHlo.launchContents m' c) (Proc.devRef .tc Cert.ReferenceIdeal.main_v1579) := by
  have hk := StableHlo.Ascending.eq_unary Cert.KernelIdeal.Hand.KOps_asc (Cert.KernelIdeal.Hand.Wl m ρ c) (Cert.KernelIdeal.Hand.mem_KOps_st7 (Cert.KernelIdeal.Hand.mem_st_7_28 (List.getElem_mem (l := Cert.KernelIdeal.GenP.hostOps7_28 (F := Ideal)) (n := 6) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part32 (List.getElem_mem (l := Cert.ReferenceIdeal.Hand.ops_part32 (F := Ideal)) (n := 1) (by decide))) rfl rfl (by decide) (hx := ⟨by decide, rfl⟩) (hy := ⟨by decide, rfl⟩)
  rw [hk, hr, ← c_main_v410__main_v1578 hag hel]

theorem c_main_v412__main_v1580 : StableHlo.after Cert.KernelIdeal.Hand.KOps (Cert.KernelIdeal.Hand.Wl (F := Ideal) m ρ c) (Proc.devRef .tc Cert.KernelIdeal.main_v412) = StableHlo.after (Cert.ReferenceIdeal.Hand.ops (F := Ideal)) (StableHlo.launchContents m' c) (Proc.devRef .tc Cert.ReferenceIdeal.main_v1580) := by
  have hk := StableHlo.Ascending.eq_binary Cert.KernelIdeal.Hand.KOps_asc (Cert.KernelIdeal.Hand.Wl m ρ c) (Cert.KernelIdeal.Hand.mem_KOps_st7 (Cert.KernelIdeal.Hand.mem_st_7_28 (List.getElem_mem (l := Cert.KernelIdeal.GenP.hostOps7_28 (F := Ideal)) (n := 7) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part32 (List.getElem_mem (l := Cert.ReferenceIdeal.Hand.ops_part32 (F := Ideal)) (n := 2) (by decide))) rfl rfl rfl (by decide) (by decide) (ha := ⟨by decide, rfl⟩) (hb := ⟨by decide, rfl⟩) (hy := ⟨by decide, rfl⟩)
  rw [hk, hr, ← c_main_v406__main_v1574 hag hel, ← c_main_v411__main_v1579 hag hel]

theorem c_main_v413__main_v1581 : StableHlo.after Cert.KernelIdeal.Hand.KOps (Cert.KernelIdeal.Hand.Wl (F := Ideal) m ρ c) (Proc.devRef .tc Cert.KernelIdeal.main_v413) = StableHlo.after (Cert.ReferenceIdeal.Hand.ops (F := Ideal)) (StableHlo.launchContents m' c) (Proc.devRef .tc Cert.ReferenceIdeal.main_v1581) := by
  have hk := StableHlo.Ascending.eq_unary Cert.KernelIdeal.Hand.KOps_asc (Cert.KernelIdeal.Hand.Wl m ρ c) (Cert.KernelIdeal.Hand.mem_KOps_st7 (Cert.KernelIdeal.Hand.mem_st_7_28 (List.getElem_mem (l := Cert.KernelIdeal.GenP.hostOps7_28 (F := Ideal)) (n := 8) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part32 (List.getElem_mem (l := Cert.ReferenceIdeal.Hand.ops_part32 (F := Ideal)) (n := 3) (by decide))) rfl rfl (by decide) (hx := ⟨by decide, rfl⟩) (hy := ⟨by decide, rfl⟩)
  rw [hk, hr, ← c_main_v412__main_v1580 hag hel]

theorem c_main_cst_80__main_cst_340 : StableHlo.after Cert.KernelIdeal.Hand.KOps (Cert.KernelIdeal.Hand.Wl (F := Ideal) m ρ c) (Proc.devRef .tc Cert.KernelIdeal.main_cst_80) = StableHlo.after (Cert.ReferenceIdeal.Hand.ops (F := Ideal)) (StableHlo.launchContents m' c) (Proc.devRef .tc Cert.ReferenceIdeal.main_cst_340) := by
  have hk := StableHlo.Ascending.eq_nullary Cert.KernelIdeal.Hand.KOps_asc (Cert.KernelIdeal.Hand.Wl m ρ c) (Cert.KernelIdeal.Hand.mem_KOps_st7 (Cert.KernelIdeal.Hand.mem_st_7_28 (List.getElem_mem (l := Cert.KernelIdeal.GenP.hostOps7_28 (F := Ideal)) (n := 9) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part32 (List.getElem_mem (l := Cert.ReferenceIdeal.Hand.ops_part32 (F := Ideal)) (n := 4) (by decide))) rfl (hy := ⟨by decide, rfl⟩)
  rw [hk, hr]

theorem c_main_v414__main_v1582 : StableHlo.after Cert.KernelIdeal.Hand.KOps (Cert.KernelIdeal.Hand.Wl (F := Ideal) m ρ c) (Proc.devRef .tc Cert.KernelIdeal.main_v414) = StableHlo.after (Cert.ReferenceIdeal.Hand.ops (F := Ideal)) (StableHlo.launchContents m' c) (Proc.devRef .tc Cert.ReferenceIdeal.main_v1582) := by
  have hk := StableHlo.Ascending.eq_binary Cert.KernelIdeal.Hand.KOps_asc (Cert.KernelIdeal.Hand.Wl m ρ c) (Cert.KernelIdeal.Hand.mem_KOps_st7 (Cert.KernelIdeal.Hand.mem_st_7_28 (List.getElem_mem (l := Cert.KernelIdeal.GenP.hostOps7_28 (F := Ideal)) (n := 10) (by decide)))) rfl rfl rfl (by decide) (by decide) (a := Cert.KernelIdeal.main_v413) (b := Cert.KernelIdeal.main_cst_80) (y := Cert.KernelIdeal.main_v414) (f := open Cert.KernelIdeal Cert.KernelIdeal.Gen in (fun x v => Host.reduceAdd (F := Ideal) x v reducesTo_S2048x2048_S2048_d1 h_S_)) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part32 (List.getElem_mem (l := Cert.ReferenceIdeal.Hand.ops_part32 (F := Ideal)) (n := 5) (by decide))) rfl rfl rfl (by decide) (by decide) (a := Cert.ReferenceIdeal.main_v1581) (b := Cert.ReferenceIdeal.main_cst_340) (y := Cert.ReferenceIdeal.main_v1582) (f := open Cert.ReferenceIdeal Cert.ReferenceIdeal.Gen in (fun x v => Host.reduceAdd (F := Ideal) x v reducesTo_S2048x2048_S2048_d1 h_S_)) (ha := ⟨by decide, rfl⟩) (hb := ⟨by decide, rfl⟩) (hy := ⟨by decide, rfl⟩)
  rw [hk, hr, ← c_main_v413__main_v1581 hag hel, ← c_main_cst_80__main_cst_340 hag hel]

theorem c_main_v415__main_v1583 : StableHlo.after Cert.KernelIdeal.Hand.KOps (Cert.KernelIdeal.Hand.Wl (F := Ideal) m ρ c) (Proc.devRef .tc Cert.KernelIdeal.main_v415) = StableHlo.after (Cert.ReferenceIdeal.Hand.ops (F := Ideal)) (StableHlo.launchContents m' c) (Proc.devRef .tc Cert.ReferenceIdeal.main_v1583) := by
  have hk := StableHlo.Ascending.eq_unary Cert.KernelIdeal.Hand.KOps_asc (Cert.KernelIdeal.Hand.Wl m ρ c) (Cert.KernelIdeal.Hand.mem_KOps_st7 (Cert.KernelIdeal.Hand.mem_st_7_28 (List.getElem_mem (l := Cert.KernelIdeal.GenP.hostOps7_28 (F := Ideal)) (n := 11) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part32 (List.getElem_mem (l := Cert.ReferenceIdeal.Hand.ops_part32 (F := Ideal)) (n := 6) (by decide))) rfl rfl (by decide) (hx := ⟨by decide, rfl⟩) (hy := ⟨by decide, rfl⟩)
  rw [hk, hr, ← c_main_v414__main_v1582 hag hel]

theorem c_main_v416__main_v1584 : StableHlo.after Cert.KernelIdeal.Hand.KOps (Cert.KernelIdeal.Hand.Wl (F := Ideal) m ρ c) (Proc.devRef .tc Cert.KernelIdeal.main_v416) = StableHlo.after (Cert.ReferenceIdeal.Hand.ops (F := Ideal)) (StableHlo.launchContents m' c) (Proc.devRef .tc Cert.ReferenceIdeal.main_v1584) := by
  have hk := StableHlo.Ascending.eq_unary Cert.KernelIdeal.Hand.KOps_asc (Cert.KernelIdeal.Hand.Wl m ρ c) (Cert.KernelIdeal.Hand.mem_KOps_st7 (Cert.KernelIdeal.Hand.mem_st_7_28 (List.getElem_mem (l := Cert.KernelIdeal.GenP.hostOps7_28 (F := Ideal)) (n := 12) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part32 (List.getElem_mem (l := Cert.ReferenceIdeal.Hand.ops_part32 (F := Ideal)) (n := 7) (by decide))) rfl rfl (by decide) (hx := ⟨by decide, rfl⟩) (hy := ⟨by decide, rfl⟩)
  rw [hk, hr, ← c_main_v415__main_v1583 hag hel]

theorem c_main_v417__main_v1585 : StableHlo.after Cert.KernelIdeal.Hand.KOps (Cert.KernelIdeal.Hand.Wl (F := Ideal) m ρ c) (Proc.devRef .tc Cert.KernelIdeal.main_v417) = StableHlo.after (Cert.ReferenceIdeal.Hand.ops (F := Ideal)) (StableHlo.launchContents m' c) (Proc.devRef .tc Cert.ReferenceIdeal.main_v1585) := by
  have hk := StableHlo.Ascending.eq_binary Cert.KernelIdeal.Hand.KOps_asc (Cert.KernelIdeal.Hand.Wl m ρ c) (Cert.KernelIdeal.Hand.mem_KOps_st7 (Cert.KernelIdeal.Hand.mem_st_7_28 (List.getElem_mem (l := Cert.KernelIdeal.GenP.hostOps7_28 (F := Ideal)) (n := 13) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part32 (List.getElem_mem (l := Cert.ReferenceIdeal.Hand.ops_part32 (F := Ideal)) (n := 8) (by decide))) rfl rfl rfl (by decide) (by decide) (ha := ⟨by decide, rfl⟩) (hb := ⟨by decide, rfl⟩) (hy := ⟨by decide, rfl⟩)
  rw [hk, hr, ← c_main_v413__main_v1581 hag hel, ← c_main_v416__main_v1584 hag hel]

theorem c_main_v418__main_v1586 : StableHlo.after Cert.KernelIdeal.Hand.KOps (Cert.KernelIdeal.Hand.Wl (F := Ideal) m ρ c) (Proc.devRef .tc Cert.KernelIdeal.main_v418) = StableHlo.after (Cert.ReferenceIdeal.Hand.ops (F := Ideal)) (StableHlo.launchContents m' c) (Proc.devRef .tc Cert.ReferenceIdeal.main_v1586) := by
  have hk := StableHlo.Ascending.eq_unary Cert.KernelIdeal.Hand.KOps_asc (Cert.KernelIdeal.Hand.Wl m ρ c) (Cert.KernelIdeal.Hand.mem_KOps_st7 (Cert.KernelIdeal.Hand.mem_st_7_28 (List.getElem_mem (l := Cert.KernelIdeal.GenP.hostOps7_28 (F := Ideal)) (n := 14) (by decide)))) rfl rfl (by decide) (x := Cert.KernelIdeal.main_v417) (y := Cert.KernelIdeal.main_v418) (f := open Cert.KernelIdeal Cert.KernelIdeal.Gen in (transpose S2048x2048 [1, 0] · transposes_S2048x2048_S2048x2048_1_0)) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part32 (List.getElem_mem (l := Cert.ReferenceIdeal.Hand.ops_part32 (F := Ideal)) (n := 9) (by decide))) rfl rfl (by decide) (x := Cert.ReferenceIdeal.main_v1585) (y := Cert.ReferenceIdeal.main_v1586) (f := open Cert.ReferenceIdeal Cert.ReferenceIdeal.Gen in (transpose S2048x2048 [1, 0] · transposes_S2048x2048_S2048x2048_1_0)) (hx := ⟨by decide, rfl⟩) (hy := ⟨by decide, rfl⟩)
  rw [hk, hr, ← c_main_v417__main_v1585 hag hel]

theorem c_main_v419__main_v1587 : StableHlo.after Cert.KernelIdeal.Hand.KOps (Cert.KernelIdeal.Hand.Wl (F := Ideal) m ρ c) (Proc.devRef .tc Cert.KernelIdeal.main_v419) = StableHlo.after (Cert.ReferenceIdeal.Hand.ops (F := Ideal)) (StableHlo.launchContents m' c) (Proc.devRef .tc Cert.ReferenceIdeal.main_v1587) := by
  have hk := StableHlo.Ascending.eq_binary Cert.KernelIdeal.Hand.KOps_asc (Cert.KernelIdeal.Hand.Wl m ρ c) (Cert.KernelIdeal.Hand.mem_KOps_st7 (Cert.KernelIdeal.Hand.mem_st_7_28 (List.getElem_mem (l := Cert.KernelIdeal.GenP.hostOps7_28 (F := Ideal)) (n := 15) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part32 (List.getElem_mem (l := Cert.ReferenceIdeal.Hand.ops_part32 (F := Ideal)) (n := 10) (by decide))) rfl rfl rfl (by decide) (by decide) (ha := ⟨by decide, rfl⟩) (hb := ⟨by decide, rfl⟩) (hy := ⟨by decide, rfl⟩)
  rw [hk, hr, ← c_main_v418__main_v1586 hag hel, ← c_main_v379__main_v1547 hag hel]
  rfl

theorem c_main_call15_cst__main_call73_cst : StableHlo.after Cert.KernelIdeal.Hand.KOps (Cert.KernelIdeal.Hand.Wl (F := Ideal) m ρ c) (Proc.devRef .tc Cert.KernelIdeal.main_call15_cst) = StableHlo.after (Cert.ReferenceIdeal.Hand.ops (F := Ideal)) (StableHlo.launchContents m' c) (Proc.devRef .tc Cert.ReferenceIdeal.main_call73_cst) := by
  have hk := StableHlo.Ascending.eq_nullary Cert.KernelIdeal.Hand.KOps_asc (Cert.KernelIdeal.Hand.Wl m ρ c) (Cert.KernelIdeal.Hand.mem_KOps_st7 (Cert.KernelIdeal.Hand.mem_st_7_29 (List.getElem_mem (l := Cert.KernelIdeal.GenP.hostOps7_29 (F := Ideal)) (n := 0) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part32 (List.getElem_mem (l := Cert.ReferenceIdeal.Hand.ops_part32 (F := Ideal)) (n := 11) (by decide))) rfl (hy := ⟨by decide, rfl⟩)
  rw [hk, hr]

theorem c_main_call15_v0__main_call73_v0 : StableHlo.after Cert.KernelIdeal.Hand.KOps (Cert.KernelIdeal.Hand.Wl (F := Ideal) m ρ c) (Proc.devRef .tc Cert.KernelIdeal.main_call15_v0) = StableHlo.after (Cert.ReferenceIdeal.Hand.ops (F := Ideal)) (StableHlo.launchContents m' c) (Proc.devRef .tc Cert.ReferenceIdeal.main_call73_v0) := by
  have hk := StableHlo.Ascending.eq_unary Cert.KernelIdeal.Hand.KOps_asc (Cert.KernelIdeal.Hand.Wl m ρ c) (Cert.KernelIdeal.Hand.mem_KOps_st7 (Cert.KernelIdeal.Hand.mem_st_7_29 (List.getElem_mem (l := Cert.KernelIdeal.GenP.hostOps7_29 (F := Ideal)) (n := 1) (by decide)))) rfl rfl (by decide) (x := Cert.KernelIdeal.main_call15_cst) (y := Cert.KernelIdeal.main_call15_v0) (f := open Cert.KernelIdeal Cert.KernelIdeal.Gen in (broadcastInDim S2048x8 ![] bcast_S_S2048x8)) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part32 (List.getElem_mem (l := Cert.ReferenceIdeal.Hand.ops_part32 (F := Ideal)) (n := 12) (by decide))) rfl rfl (by decide) (x := Cert.ReferenceIdeal.main_call73_cst) (y := Cert.ReferenceIdeal.main_call73_v0) (f := open Cert.ReferenceIdeal Cert.ReferenceIdeal.Gen in (broadcastInDim S2048x8 ![] bcast_S_S2048x8)) (hx := ⟨by decide, rfl⟩) (hy := ⟨by decide, rfl⟩)
  rw [hk, hr, ← c_main_call15_cst__main_call73_cst hag hel]

theorem c_main_call15_v1__main_call73_v1 : StableHlo.after Cert.KernelIdeal.Hand.KOps (Cert.KernelIdeal.Hand.Wl (F := Ideal) m ρ c) (Proc.devRef .tc Cert.KernelIdeal.main_call15_v1) = StableHlo.after (Cert.ReferenceIdeal.Hand.ops (F := Ideal)) (StableHlo.launchContents m' c) (Proc.devRef .tc Cert.ReferenceIdeal.main_call73_v1) := by
  have hk := StableHlo.Ascending.eq_binary Cert.KernelIdeal.Hand.KOps_asc (Cert.KernelIdeal.Hand.Wl m ρ c) (Cert.KernelIdeal.Hand.mem_KOps_st7 (Cert.KernelIdeal.Hand.mem_st_7_29 (List.getElem_mem (l := Cert.KernelIdeal.GenP.hostOps7_29 (F := Ideal)) (n := 2) (by decide)))) rfl rfl rfl (by decide) (by decide) (a := Cert.KernelIdeal.main_v419) (b := Cert.KernelIdeal.main_call15_v0) (y := Cert.KernelIdeal.main_call15_v1) (f := open Cert.KernelIdeal Cert.KernelIdeal.Gen in (cmpf (F := Ideal) .ogt)) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part32 (List.getElem_mem (l := Cert.ReferenceIdeal.Hand.ops_part32 (F := Ideal)) (n := 13) (by decide))) rfl rfl rfl (by decide) (by decide) (a := Cert.ReferenceIdeal.main_v1587) (b := Cert.ReferenceIdeal.main_call73_v0) (y := Cert.ReferenceIdeal.main_call73_v1) (f := open Cert.ReferenceIdeal Cert.ReferenceIdeal.Gen in (cmpf (F := Ideal) .ogt)) (ha := ⟨by decide, rfl⟩) (hb := ⟨by decide, rfl⟩) (hy := ⟨by decide, rfl⟩)
  rw [hk, hr, ← c_main_v419__main_v1587 hag hel, ← c_main_call15_v0__main_call73_v0 hag hel]

theorem c_main_call15_cst_0__main_call73_cst_0 : StableHlo.after Cert.KernelIdeal.Hand.KOps (Cert.KernelIdeal.Hand.Wl (F := Ideal) m ρ c) (Proc.devRef .tc Cert.KernelIdeal.main_call15_cst_0) = StableHlo.after (Cert.ReferenceIdeal.Hand.ops (F := Ideal)) (StableHlo.launchContents m' c) (Proc.devRef .tc Cert.ReferenceIdeal.main_call73_cst_0) := by
  have hk := StableHlo.Ascending.eq_nullary Cert.KernelIdeal.Hand.KOps_asc (Cert.KernelIdeal.Hand.Wl m ρ c) (Cert.KernelIdeal.Hand.mem_KOps_st7 (Cert.KernelIdeal.Hand.mem_st_7_29 (List.getElem_mem (l := Cert.KernelIdeal.GenP.hostOps7_29 (F := Ideal)) (n := 3) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part32 (List.getElem_mem (l := Cert.ReferenceIdeal.Hand.ops_part32 (F := Ideal)) (n := 14) (by decide))) rfl (hy := ⟨by decide, rfl⟩)
  rw [hk, hr]

theorem c_main_call15_v2__main_call73_v2 : StableHlo.after Cert.KernelIdeal.Hand.KOps (Cert.KernelIdeal.Hand.Wl (F := Ideal) m ρ c) (Proc.devRef .tc Cert.KernelIdeal.main_call15_v2) = StableHlo.after (Cert.ReferenceIdeal.Hand.ops (F := Ideal)) (StableHlo.launchContents m' c) (Proc.devRef .tc Cert.ReferenceIdeal.main_call73_v2) := by
  have hk := StableHlo.Ascending.eq_unary Cert.KernelIdeal.Hand.KOps_asc (Cert.KernelIdeal.Hand.Wl m ρ c) (Cert.KernelIdeal.Hand.mem_KOps_st7 (Cert.KernelIdeal.Hand.mem_st_7_29 (List.getElem_mem (l := Cert.KernelIdeal.GenP.hostOps7_29 (F := Ideal)) (n := 4) (by decide)))) rfl rfl (by decide) (x := Cert.KernelIdeal.main_call15_cst_0) (y := Cert.KernelIdeal.main_call15_v2) (f := open Cert.KernelIdeal Cert.KernelIdeal.Gen in (broadcastInDim S2048x8 ![] bcast_S_S2048x8)) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part32 (List.getElem_mem (l := Cert.ReferenceIdeal.Hand.ops_part32 (F := Ideal)) (n := 15) (by decide))) rfl rfl (by decide) (x := Cert.ReferenceIdeal.main_call73_cst_0) (y := Cert.ReferenceIdeal.main_call73_v2) (f := open Cert.ReferenceIdeal Cert.ReferenceIdeal.Gen in (broadcastInDim S2048x8 ![] bcast_S_S2048x8)) (hx := ⟨by decide, rfl⟩) (hy := ⟨by decide, rfl⟩)
  rw [hk, hr, ← c_main_call15_cst_0__main_call73_cst_0 hag hel]

theorem c_main_call15_v3__main_call73_v3 : StableHlo.after Cert.KernelIdeal.Hand.KOps (Cert.KernelIdeal.Hand.Wl (F := Ideal) m ρ c) (Proc.devRef .tc Cert.KernelIdeal.main_call15_v3) = StableHlo.after (Cert.ReferenceIdeal.Hand.ops (F := Ideal)) (StableHlo.launchContents m' c) (Proc.devRef .tc Cert.ReferenceIdeal.main_call73_v3) := by
  have hk := StableHlo.Ascending.eq_binary Cert.KernelIdeal.Hand.KOps_asc (Cert.KernelIdeal.Hand.Wl m ρ c) (Cert.KernelIdeal.Hand.mem_KOps_st7 (Cert.KernelIdeal.Hand.mem_st_7_29 (List.getElem_mem (l := Cert.KernelIdeal.GenP.hostOps7_29 (F := Ideal)) (n := 5) (by decide)))) rfl rfl rfl (by decide) (by decide) (a := Cert.KernelIdeal.main_v419) (b := Cert.KernelIdeal.main_call15_v2) (y := Cert.KernelIdeal.main_call15_v3) (f := open Cert.KernelIdeal Cert.KernelIdeal.Gen in (cmpf (F := Ideal) .ogt)) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part32 (List.getElem_mem (l := Cert.ReferenceIdeal.Hand.ops_part32 (F := Ideal)) (n := 16) (by decide))) rfl rfl rfl (by decide) (by decide) (a := Cert.ReferenceIdeal.main_v1587) (b := Cert.ReferenceIdeal.main_call73_v2) (y := Cert.ReferenceIdeal.main_call73_v3) (f := open Cert.ReferenceIdeal Cert.ReferenceIdeal.Gen in (cmpf (F := Ideal) .ogt)) (ha := ⟨by decide, rfl⟩) (hb := ⟨by decide, rfl⟩) (hy := ⟨by decide, rfl⟩)
  rw [hk, hr, ← c_main_v419__main_v1587 hag hel, ← c_main_call15_v2__main_call73_v2 hag hel]

theorem c_main_call15_cst_1__main_call73_cst_1 : StableHlo.after Cert.KernelIdeal.Hand.KOps (Cert.KernelIdeal.Hand.Wl (F := Ideal) m ρ c) (Proc.devRef .tc Cert.KernelIdeal.main_call15_cst_1) = StableHlo.after (Cert.ReferenceIdeal.Hand.ops (F := Ideal)) (StableHlo.launchContents m' c) (Proc.devRef .tc Cert.ReferenceIdeal.main_call73_cst_1) := by
  have hk := StableHlo.Ascending.eq_nullary Cert.KernelIdeal.Hand.KOps_asc (Cert.KernelIdeal.Hand.Wl m ρ c) (Cert.KernelIdeal.Hand.mem_KOps_st7 (Cert.KernelIdeal.Hand.mem_st_7_29 (List.getElem_mem (l := Cert.KernelIdeal.GenP.hostOps7_29 (F := Ideal)) (n := 6) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part32 (List.getElem_mem (l := Cert.ReferenceIdeal.Hand.ops_part32 (F := Ideal)) (n := 17) (by decide))) rfl (hy := ⟨by decide, rfl⟩)
  rw [hk, hr]

theorem c_main_call15_call0_v0__main_call73_call0_v0 : StableHlo.after Cert.KernelIdeal.Hand.KOps (Cert.KernelIdeal.Hand.Wl (F := Ideal) m ρ c) (Proc.devRef .tc Cert.KernelIdeal.main_call15_call0_v0) = StableHlo.after (Cert.ReferenceIdeal.Hand.ops (F := Ideal)) (StableHlo.launchContents m' c) (Proc.devRef .tc Cert.ReferenceIdeal.main_call73_call0_v0) := by
  have hk := StableHlo.Ascending.eq_unary Cert.KernelIdeal.Hand.KOps_asc (Cert.KernelIdeal.Hand.Wl m ρ c) (Cert.KernelIdeal.Hand.mem_KOps_st7 (Cert.KernelIdeal.Hand.mem_st_7_29 (List.getElem_mem (l := Cert.KernelIdeal.GenP.hostOps7_29 (F := Ideal)) (n := 7) (by decide)))) rfl rfl (by decide) (x := Cert.KernelIdeal.main_call15_cst_1) (y := Cert.KernelIdeal.main_call15_call0_v0) (f := open Cert.KernelIdeal Cert.KernelIdeal.Gen in id) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part32 (List.getElem_mem (l := Cert.ReferenceIdeal.Hand.ops_part32 (F := Ideal)) (n := 18) (by decide))) rfl rfl (by decide) (x := Cert.ReferenceIdeal.main_call73_cst_1) (y := Cert.ReferenceIdeal.main_call73_call0_v0) (f := open Cert.ReferenceIdeal Cert.ReferenceIdeal.Gen in id) (hx := ⟨by decide, rfl⟩) (hy := ⟨by decide, rfl⟩)
  rw [hk, hr, ← c_main_call15_cst_1__main_call73_cst_1 hag hel]

theorem c_main_call15_call0_v1__main_call73_call0_v1 : StableHlo.after Cert.KernelIdeal.Hand.KOps (Cert.KernelIdeal.Hand.Wl (F := Ideal) m ρ c) (Proc.devRef .tc Cert.KernelIdeal.main_call15_call0_v1) = StableHlo.after (Cert.ReferenceIdeal.Hand.ops (F := Ideal)) (StableHlo.launchContents m' c) (Proc.devRef .tc Cert.ReferenceIdeal.main_call73_call0_v1) := by
  have hk := StableHlo.Ascending.eq_unary Cert.KernelIdeal.Hand.KOps_asc (Cert.KernelIdeal.Hand.Wl m ρ c) (Cert.KernelIdeal.Hand.mem_KOps_st7 (Cert.KernelIdeal.Hand.mem_st_7_29 (List.getElem_mem (l := Cert.KernelIdeal.GenP.hostOps7_29 (F := Ideal)) (n := 8) (by decide)))) rfl rfl (by decide) (x := Cert.KernelIdeal.main_call15_call0_v0) (y := Cert.KernelIdeal.main_call15_call0_v1) (f := open Cert.KernelIdeal Cert.KernelIdeal.Gen in (broadcastInDim S2048x8 ![] bcast_S_S2048x8)) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part32 (List.getElem_mem (l := Cert.ReferenceIdeal.Hand.ops_part32 (F := Ideal)) (n := 19) (by decide))) rfl rfl (by decide) (x := Cert.ReferenceIdeal.main_call73_call0_v0) (y := Cert.ReferenceIdeal.main_call73_call0_v1) (f := open Cert.ReferenceIdeal Cert.ReferenceIdeal.Gen in (broadcastInDim S2048x8 ![] bcast_S_S2048x8)) (hx := ⟨by decide, rfl⟩) (hy := ⟨by decide, rfl⟩)
  rw [hk, hr, ← c_main_call15_call0_v0__main_call73_call0_v0 hag hel]

theorem c_main_call15_v4__main_call73_v4 : StableHlo.after Cert.KernelIdeal.Hand.KOps (Cert.KernelIdeal.Hand.Wl (F := Ideal) m ρ c) (Proc.devRef .tc Cert.KernelIdeal.main_call15_v4) = StableHlo.after (Cert.ReferenceIdeal.Hand.ops (F := Ideal)) (StableHlo.launchContents m' c) (Proc.devRef .tc Cert.ReferenceIdeal.main_call73_v4) := by
  have hk := StableHlo.Ascending.eq_ternary Cert.KernelIdeal.Hand.KOps_asc (Cert.KernelIdeal.Hand.Wl m ρ c) (Cert.KernelIdeal.Hand.mem_KOps_st7 (Cert.KernelIdeal.Hand.mem_st_7_29 (List.getElem_mem (l := Cert.KernelIdeal.GenP.hostOps7_29 (F := Ideal)) (n := 9) (by decide)))) rfl rfl rfl rfl (by decide) (by decide) (by decide) (c := Cert.KernelIdeal.main_call15_v3) (a := Cert.KernelIdeal.main_call15_call0_v1) (b := Cert.KernelIdeal.main_v419) (y := Cert.KernelIdeal.main_call15_v4) (f := (select : (⟨Cert.KernelIdeal.S2048x8, .i1⟩ : BufTy).Contents (Elt Ideal) → (⟨Cert.KernelIdeal.S2048x8, .f32⟩ : BufTy).Contents (Elt Ideal) → (⟨Cert.KernelIdeal.S2048x8, .f32⟩ : BufTy).Contents (Elt Ideal) → (⟨Cert.KernelIdeal.S2048x8, .f32⟩ : BufTy).Contents (Elt Ideal))) (hc := ⟨by decide, rfl⟩) (ha := ⟨by decide, rfl⟩) (hb := ⟨by decide, rfl⟩) (hy := ⟨by decide, rfl⟩)
  have hr := StableHlo.Ascending.eq_ternary (Cert.ReferenceIdeal.Hand.ops_asc (F := Ideal)) (StableHlo.launchContents m' c) (Cert.ReferenceIdeal.Hand.mem_ops_part32 (List.getElem_mem (l := Cert.ReferenceIdeal.Hand.ops_part32 (F := Ideal)) (n := 20) (by decide))) rfl rfl rfl rfl (by decide) (by decide) (by decide) (c := Cert.ReferenceIdeal.main_call73_v3) (a := Cert.ReferenceIdeal.main_call73_call0_v1) (b := Cert.ReferenceIdeal.main_v1587) (y := Cert.ReferenceIdeal.main_call73_v4) (f := (select : (⟨Cert.ReferenceIdeal.S2048x8, .i1⟩ : BufTy).Contents (Elt Ideal) → (⟨Cert.ReferenceIdeal.S2048x8, .f32⟩ : BufTy).Contents (Elt Ideal) → (⟨Cert.ReferenceIdeal.S2048x8, .f32⟩ : BufTy).Contents (Elt Ideal) → (⟨Cert.ReferenceIdeal.S2048x8, .f32⟩ : BufTy).Contents (Elt Ideal))) (hc := ⟨by decide, rfl⟩) (ha := ⟨by decide, rfl⟩) (hb := ⟨by decide, rfl⟩) (hy := ⟨by decide, rfl⟩)
  rw [hk, hr, ← c_main_call15_v3__main_call73_v3 hag hel, ← c_main_call15_call0_v1__main_call73_call0_v1 hag hel, ← c_main_v419__main_v1587 hag hel]

theorem c_main_call15_v5__main_call73_v5 : StableHlo.after Cert.KernelIdeal.Hand.KOps (Cert.KernelIdeal.Hand.Wl (F := Ideal) m ρ c) (Proc.devRef .tc Cert.KernelIdeal.main_call15_v5) = StableHlo.after (Cert.ReferenceIdeal.Hand.ops (F := Ideal)) (StableHlo.launchContents m' c) (Proc.devRef .tc Cert.ReferenceIdeal.main_call73_v5) := by
  have hk := StableHlo.Ascending.eq_unary Cert.KernelIdeal.Hand.KOps_asc (Cert.KernelIdeal.Hand.Wl m ρ c) (Cert.KernelIdeal.Hand.mem_KOps_st7 (Cert.KernelIdeal.Hand.mem_st_7_29 (List.getElem_mem (l := Cert.KernelIdeal.GenP.hostOps7_29 (F := Ideal)) (n := 10) (by decide)))) rfl rfl (by decide) (x := Cert.KernelIdeal.main_call15_v4) (y := Cert.KernelIdeal.main_call15_v5) (f := open Cert.KernelIdeal Cert.KernelIdeal.Gen in Host.expm1 (F := Ideal)) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part32 (List.getElem_mem (l := Cert.ReferenceIdeal.Hand.ops_part32 (F := Ideal)) (n := 21) (by decide))) rfl rfl (by decide) (x := Cert.ReferenceIdeal.main_call73_v4) (y := Cert.ReferenceIdeal.main_call73_v5) (f := open Cert.ReferenceIdeal Cert.ReferenceIdeal.Gen in Host.expm1 (F := Ideal)) (hx := ⟨by decide, rfl⟩) (hy := ⟨by decide, rfl⟩)
  rw [hk, hr, ← c_main_call15_v4__main_call73_v4 hag hel]

theorem c_main_call15_cst_2__main_call73_cst_2 : StableHlo.after Cert.KernelIdeal.Hand.KOps (Cert.KernelIdeal.Hand.Wl (F := Ideal) m ρ c) (Proc.devRef .tc Cert.KernelIdeal.main_call15_cst_2) = StableHlo.after (Cert.ReferenceIdeal.Hand.ops (F := Ideal)) (StableHlo.launchContents m' c) (Proc.devRef .tc Cert.ReferenceIdeal.main_call73_cst_2) := by
  have hk := StableHlo.Ascending.eq_nullary Cert.KernelIdeal.Hand.KOps_asc (Cert.KernelIdeal.Hand.Wl m ρ c) (Cert.KernelIdeal.Hand.mem_KOps_st7 (Cert.KernelIdeal.Hand.mem_st_7_29 (List.getElem_mem (l := Cert.KernelIdeal.GenP.hostOps7_29 (F := Ideal)) (n := 11) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part32 (List.getElem_mem (l := Cert.ReferenceIdeal.Hand.ops_part32 (F := Ideal)) (n := 22) (by decide))) rfl (hy := ⟨by decide, rfl⟩)
  rw [hk, hr]

theorem c_main_call15_v6__main_call73_v6 : StableHlo.after Cert.KernelIdeal.Hand.KOps (Cert.KernelIdeal.Hand.Wl (F := Ideal) m ρ c) (Proc.devRef .tc Cert.KernelIdeal.main_call15_v6) = StableHlo.after (Cert.ReferenceIdeal.Hand.ops (F := Ideal)) (StableHlo.launchContents m' c) (Proc.devRef .tc Cert.ReferenceIdeal.main_call73_v6) := by
  have hk := StableHlo.Ascending.eq_unary Cert.KernelIdeal.Hand.KOps_asc (Cert.KernelIdeal.Hand.Wl m ρ c) (Cert.KernelIdeal.Hand.mem_KOps_st7 (Cert.KernelIdeal.Hand.mem_st_7_29 (List.getElem_mem (l := Cert.KernelIdeal.GenP.hostOps7_29 (F := Ideal)) (n := 12) (by decide)))) rfl rfl (by decide) (x := Cert.KernelIdeal.main_call15_cst_2) (y := Cert.KernelIdeal.main_call15_v6) (f := open Cert.KernelIdeal Cert.KernelIdeal.Gen in (broadcastInDim S2048x8 ![] bcast_S_S2048x8)) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part32 (List.getElem_mem (l := Cert.ReferenceIdeal.Hand.ops_part32 (F := Ideal)) (n := 23) (by decide))) rfl rfl (by decide) (x := Cert.ReferenceIdeal.main_call73_cst_2) (y := Cert.ReferenceIdeal.main_call73_v6) (f := open Cert.ReferenceIdeal Cert.ReferenceIdeal.Gen in (broadcastInDim S2048x8 ![] bcast_S_S2048x8)) (hx := ⟨by decide, rfl⟩) (hy := ⟨by decide, rfl⟩)
  rw [hk, hr, ← c_main_call15_cst_2__main_call73_cst_2 hag hel]

theorem c_main_call15_v7__main_call73_v7 : StableHlo.after Cert.KernelIdeal.Hand.KOps (Cert.KernelIdeal.Hand.Wl (F := Ideal) m ρ c) (Proc.devRef .tc Cert.KernelIdeal.main_call15_v7) = StableHlo.after (Cert.ReferenceIdeal.Hand.ops (F := Ideal)) (StableHlo.launchContents m' c) (Proc.devRef .tc Cert.ReferenceIdeal.main_call73_v7) := by
  have hk := StableHlo.Ascending.eq_binary Cert.KernelIdeal.Hand.KOps_asc (Cert.KernelIdeal.Hand.Wl m ρ c) (Cert.KernelIdeal.Hand.mem_KOps_st7 (Cert.KernelIdeal.Hand.mem_st_7_29 (List.getElem_mem (l := Cert.KernelIdeal.GenP.hostOps7_29 (F := Ideal)) (n := 13) (by decide)))) rfl rfl rfl (by decide) (by decide) (a := Cert.KernelIdeal.main_call15_v6) (b := Cert.KernelIdeal.main_call15_v5) (y := Cert.KernelIdeal.main_call15_v7) (f := open Cert.KernelIdeal Cert.KernelIdeal.Gen in mulf (F := Ideal)) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part32 (List.getElem_mem (l := Cert.ReferenceIdeal.Hand.ops_part32 (F := Ideal)) (n := 24) (by decide))) rfl rfl rfl (by decide) (by decide) (a := Cert.ReferenceIdeal.main_call73_v6) (b := Cert.ReferenceIdeal.main_call73_v5) (y := Cert.ReferenceIdeal.main_call73_v7) (f := open Cert.ReferenceIdeal Cert.ReferenceIdeal.Gen in mulf (F := Ideal)) (ha := ⟨by decide, rfl⟩) (hb := ⟨by decide, rfl⟩) (hy := ⟨by decide, rfl⟩)
  rw [hk, hr, ← c_main_call15_v6__main_call73_v6 hag hel, ← c_main_call15_v5__main_call73_v5 hag hel]

theorem c_main_v420__main_v1588 : StableHlo.after Cert.KernelIdeal.Hand.KOps (Cert.KernelIdeal.Hand.Wl (F := Ideal) m ρ c) (Proc.devRef .tc Cert.KernelIdeal.main_v420) = StableHlo.after (Cert.ReferenceIdeal.Hand.ops (F := Ideal)) (StableHlo.launchContents m' c) (Proc.devRef .tc Cert.ReferenceIdeal.main_v1588) := by
  have hk := StableHlo.Ascending.eq_ternary Cert.KernelIdeal.Hand.KOps_asc (Cert.KernelIdeal.Hand.Wl m ρ c) (Cert.KernelIdeal.Hand.mem_KOps_st7 (Cert.KernelIdeal.Hand.mem_st_7_29 (List.getElem_mem (l := Cert.KernelIdeal.GenP.hostOps7_29 (F := Ideal)) (n := 14) (by decide)))) rfl rfl rfl rfl (by decide) (by decide) (by decide) (c := Cert.KernelIdeal.main_call15_v1) (a := Cert.KernelIdeal.main_v419) (b := Cert.KernelIdeal.main_call15_v7) (y := Cert.KernelIdeal.main_v420) (f := (select : (⟨Cert.KernelIdeal.S2048x8, .i1⟩ : BufTy).Contents (Elt Ideal) → (⟨Cert.KernelIdeal.S2048x8, .f32⟩ : BufTy).Contents (Elt Ideal) → (⟨Cert.KernelIdeal.S2048x8, .f32⟩ : BufTy).Contents (Elt Ideal) → (⟨Cert.KernelIdeal.S2048x8, .f32⟩ : BufTy).Contents (Elt Ideal))) (hc := ⟨by decide, rfl⟩) (ha := ⟨by decide, rfl⟩) (hb := ⟨by decide, rfl⟩) (hy := ⟨by decide, rfl⟩)
  have hr := StableHlo.Ascending.eq_ternary (Cert.ReferenceIdeal.Hand.ops_asc (F := Ideal)) (StableHlo.launchContents m' c) (Cert.ReferenceIdeal.Hand.mem_ops_part32 (List.getElem_mem (l := Cert.ReferenceIdeal.Hand.ops_part32 (F := Ideal)) (n := 25) (by decide))) rfl rfl rfl rfl (by decide) (by decide) (by decide) (c := Cert.ReferenceIdeal.main_call73_v1) (a := Cert.ReferenceIdeal.main_v1587) (b := Cert.ReferenceIdeal.main_call73_v7) (y := Cert.ReferenceIdeal.main_v1588) (f := (select : (⟨Cert.ReferenceIdeal.S2048x8, .i1⟩ : BufTy).Contents (Elt Ideal) → (⟨Cert.ReferenceIdeal.S2048x8, .f32⟩ : BufTy).Contents (Elt Ideal) → (⟨Cert.ReferenceIdeal.S2048x8, .f32⟩ : BufTy).Contents (Elt Ideal) → (⟨Cert.ReferenceIdeal.S2048x8, .f32⟩ : BufTy).Contents (Elt Ideal))) (hc := ⟨by decide, rfl⟩) (ha := ⟨by decide, rfl⟩) (hb := ⟨by decide, rfl⟩) (hy := ⟨by decide, rfl⟩)
  rw [hk, hr, ← c_main_call15_v1__main_call73_v1 hag hel, ← c_main_v419__main_v1587 hag hel, ← c_main_call15_v7__main_call73_v7 hag hel]

theorem c_main_v421__main_v1590 : StableHlo.after Cert.KernelIdeal.Hand.KOps (Cert.KernelIdeal.Hand.Wl (F := Ideal) m ρ c) (Proc.devRef .tc Cert.KernelIdeal.main_v421) = StableHlo.after (Cert.ReferenceIdeal.Hand.ops (F := Ideal)) (StableHlo.launchContents m' c) (Proc.devRef .tc Cert.ReferenceIdeal.main_v1590) := by
  have hk := StableHlo.Ascending.eq_binary Cert.KernelIdeal.Hand.KOps_asc (Cert.KernelIdeal.Hand.Wl m ρ c) (Cert.KernelIdeal.Hand.mem_KOps_st7 (Cert.KernelIdeal.Hand.mem_st_7_30 (List.getElem_mem (l := Cert.KernelIdeal.GenP.hostOps7_30 (F := Ideal)) (n := 0) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part32 (List.getElem_mem (l := Cert.ReferenceIdeal.Hand.ops_part32 (F := Ideal)) (n := 27) (by decide))) rfl rfl rfl (by decide) (by decide) (ha := ⟨by decide, rfl⟩) (hb := ⟨by decide, rfl⟩) (hy := ⟨by decide, rfl⟩)
  rw [hk, hr, ← c_main_v38__main_v137 hag hel, ← c_main_v378__main_v1510 hag hel]
  rfl

theorem c_main_v422__main_v1591 : StableHlo.after Cert.KernelIdeal.Hand.KOps (Cert.KernelIdeal.Hand.Wl (F := Ideal) m ρ c) (Proc.devRef .tc Cert.KernelIdeal.main_v422) = StableHlo.after (Cert.ReferenceIdeal.Hand.ops (F := Ideal)) (StableHlo.launchContents m' c) (Proc.devRef .tc Cert.ReferenceIdeal.main_v1591) := by
  have hk := StableHlo.Ascending.eq_binary Cert.KernelIdeal.Hand.KOps_asc (Cert.KernelIdeal.Hand.Wl m ρ c) (Cert.KernelIdeal.Hand.mem_KOps_st7 (Cert.KernelIdeal.Hand.mem_st_7_30 (List.getElem_mem (l := Cert.KernelIdeal.GenP.hostOps7_30 (F := Ideal)) (n := 1) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part32 (List.getElem_mem (l := Cert.ReferenceIdeal.Hand.ops_part32 (F := Ideal)) (n := 28) (by decide))) rfl rfl rfl (by decide) (by decide) (ha := ⟨by decide, rfl⟩) (hb := ⟨by decide, rfl⟩) (hy := ⟨by decide, rfl⟩)
  rw [hk, hr, ← c_main_v45__main_v144 hag hel, ← c_main_v378__main_v1510 hag hel]
  rfl

theorem c_main_v423__main_v1592 : StableHlo.after Cert.KernelIdeal.Hand.KOps (Cert.KernelIdeal.Hand.Wl (F := Ideal) m ρ c) (Proc.devRef .tc Cert.KernelIdeal.main_v423) = StableHlo.after (Cert.ReferenceIdeal.Hand.ops (F := Ideal)) (StableHlo.launchContents m' c) (Proc.devRef .tc Cert.ReferenceIdeal.main_v1592) := by
  have hk := StableHlo.Ascending.eq_unary Cert.KernelIdeal.Hand.KOps_asc (Cert.KernelIdeal.Hand.Wl m ρ c) (Cert.KernelIdeal.Hand.mem_KOps_st7 (Cert.KernelIdeal.Hand.mem_st_7_30 (List.getElem_mem (l := Cert.KernelIdeal.GenP.hostOps7_30 (F := Ideal)) (n := 2) (by decide)))) rfl rfl (by decide) (x := Cert.KernelIdeal.main_v376) (y := Cert.KernelIdeal.main_v423) (f := open Cert.KernelIdeal Cert.KernelIdeal.Gen in (extractStridedSlice S8x1 ![0, 0] · slices_S16x1_S8x1_0_0)) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part32 (List.getElem_mem (l := Cert.ReferenceIdeal.Hand.ops_part32 (F := Ideal)) (n := 29) (by decide))) rfl rfl (by decide) (x := Cert.ReferenceIdeal.main_v1508) (y := Cert.ReferenceIdeal.main_v1592) (f := open Cert.ReferenceIdeal Cert.ReferenceIdeal.Gen in (extractStridedSlice S8x1 ![0, 0] · slices_S16x1_S8x1_0_0)) (hx := ⟨by decide, rfl⟩) (hy := ⟨by decide, rfl⟩)
  rw [hk, hr, ← c_main_v376__main_v1508 hag hel]

theorem c_main_v424__main_v1593 : StableHlo.after Cert.KernelIdeal.Hand.KOps (Cert.KernelIdeal.Hand.Wl (F := Ideal) m ρ c) (Proc.devRef .tc Cert.KernelIdeal.main_v424) = StableHlo.after (Cert.ReferenceIdeal.Hand.ops (F := Ideal)) (StableHlo.launchContents m' c) (Proc.devRef .tc Cert.ReferenceIdeal.main_v1593) := by
  have hk := StableHlo.Ascending.eq_binary Cert.KernelIdeal.Hand.KOps_asc (Cert.KernelIdeal.Hand.Wl m ρ c) (Cert.KernelIdeal.Hand.mem_KOps_st7 (Cert.KernelIdeal.Hand.mem_st_7_30 (List.getElem_mem (l := Cert.KernelIdeal.GenP.hostOps7_30 (F := Ideal)) (n := 3) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part32 (List.getElem_mem (l := Cert.ReferenceIdeal.Hand.ops_part32 (F := Ideal)) (n := 30) (by decide))) rfl rfl rfl (by decide) (by decide) (ha := ⟨by decide, rfl⟩) (hb := ⟨by decide, rfl⟩) (hy := ⟨by decide, rfl⟩)
  rw [hk, hr, ← c_main_v421__main_v1590 hag hel, ← c_main_v423__main_v1592 hag hel]
  rfl

theorem c_main_v425__main_v1594 : StableHlo.after Cert.KernelIdeal.Hand.KOps (Cert.KernelIdeal.Hand.Wl (F := Ideal) m ρ c) (Proc.devRef .tc Cert.KernelIdeal.main_v425) = StableHlo.after (Cert.ReferenceIdeal.Hand.ops (F := Ideal)) (StableHlo.launchContents m' c) (Proc.devRef .tc Cert.ReferenceIdeal.main_v1594) := by
  have hk := StableHlo.Ascending.eq_unary Cert.KernelIdeal.Hand.KOps_asc (Cert.KernelIdeal.Hand.Wl m ρ c) (Cert.KernelIdeal.Hand.mem_KOps_st7 (Cert.KernelIdeal.Hand.mem_st_7_30 (List.getElem_mem (l := Cert.KernelIdeal.GenP.hostOps7_30 (F := Ideal)) (n := 4) (by decide)))) rfl rfl (by decide) (x := Cert.KernelIdeal.main_v376) (y := Cert.KernelIdeal.main_v425) (f := open Cert.KernelIdeal Cert.KernelIdeal.Gen in (extractStridedSlice S8x1 ![8, 0] · slices_S16x1_S8x1_8_0)) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part32 (List.getElem_mem (l := Cert.ReferenceIdeal.Hand.ops_part32 (F := Ideal)) (n := 31) (by decide))) rfl rfl (by decide) (x := Cert.ReferenceIdeal.main_v1508) (y := Cert.ReferenceIdeal.main_v1594) (f := open Cert.ReferenceIdeal Cert.ReferenceIdeal.Gen in (extractStridedSlice S8x1 ![8, 0] · slices_S16x1_S8x1_8_0)) (hx := ⟨by decide, rfl⟩) (hy := ⟨by decide, rfl⟩)
  rw [hk, hr, ← c_main_v376__main_v1508 hag hel]

theorem c_main_v426__main_v1595 : StableHlo.after Cert.KernelIdeal.Hand.KOps (Cert.KernelIdeal.Hand.Wl (F := Ideal) m ρ c) (Proc.devRef .tc Cert.KernelIdeal.main_v426) = StableHlo.after (Cert.ReferenceIdeal.Hand.ops (F := Ideal)) (StableHlo.launchContents m' c) (Proc.devRef .tc Cert.ReferenceIdeal.main_v1595) := by
  have hk := StableHlo.Ascending.eq_binary Cert.KernelIdeal.Hand.KOps_asc (Cert.KernelIdeal.Hand.Wl m ρ c) (Cert.KernelIdeal.Hand.mem_KOps_st7 (Cert.KernelIdeal.Hand.mem_st_7_30 (List.getElem_mem (l := Cert.KernelIdeal.GenP.hostOps7_30 (F := Ideal)) (n := 5) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part32 (List.getElem_mem (l := Cert.ReferenceIdeal.Hand.ops_part32 (F := Ideal)) (n := 32) (by decide))) rfl rfl rfl (by decide) (by decide) (ha := ⟨by decide, rfl⟩) (hb := ⟨by decide, rfl⟩) (hy := ⟨by decide, rfl⟩)
  rw [hk, hr, ← c_main_v422__main_v1591 hag hel, ← c_main_v425__main_v1594 hag hel]
  rfl

theorem c_main_v427__main_v1596 : StableHlo.after Cert.KernelIdeal.Hand.KOps (Cert.KernelIdeal.Hand.Wl (F := Ideal) m ρ c) (Proc.devRef .tc Cert.KernelIdeal.main_v427) = StableHlo.after (Cert.ReferenceIdeal.Hand.ops (F := Ideal)) (StableHlo.launchContents m' c) (Proc.devRef .tc Cert.ReferenceIdeal.main_v1596) := by
  have hk := StableHlo.Ascending.eq_unary Cert.KernelIdeal.Hand.KOps_asc (Cert.KernelIdeal.Hand.Wl m ρ c) (Cert.KernelIdeal.Hand.mem_KOps_st7 (Cert.KernelIdeal.Hand.mem_st_7_30 (List.getElem_mem (l := Cert.KernelIdeal.GenP.hostOps7_30 (F := Ideal)) (n := 6) (by decide)))) rfl rfl (by decide) (x := Cert.KernelIdeal.main_v426) (y := Cert.KernelIdeal.main_v427) (f := open Cert.KernelIdeal Cert.KernelIdeal.Gen in (transpose S1x2048 [1, 0] · transposes_S2048x1_S1x2048_1_0)) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part32 (List.getElem_mem (l := Cert.ReferenceIdeal.Hand.ops_part32 (F := Ideal)) (n := 33) (by decide))) rfl rfl (by decide) (x := Cert.ReferenceIdeal.main_v1595) (y := Cert.ReferenceIdeal.main_v1596) (f := open Cert.ReferenceIdeal Cert.ReferenceIdeal.Gen in (transpose S1x2048 [1, 0] · transposes_S2048x1_S1x2048_1_0)) (hx := ⟨by decide, rfl⟩) (hy := ⟨by decide, rfl⟩)
  rw [hk, hr, ← c_main_v426__main_v1595 hag hel]

theorem c_main_v428__main_v1597 : StableHlo.after Cert.KernelIdeal.Hand.KOps (Cert.KernelIdeal.Hand.Wl (F := Ideal) m ρ c) (Proc.devRef .tc Cert.KernelIdeal.main_v428) = StableHlo.after (Cert.ReferenceIdeal.Hand.ops (F := Ideal)) (StableHlo.launchContents m' c) (Proc.devRef .tc Cert.ReferenceIdeal.main_v1597) := by
  have hk := StableHlo.Ascending.eq_unary Cert.KernelIdeal.Hand.KOps_asc (Cert.KernelIdeal.Hand.Wl m ρ c) (Cert.KernelIdeal.Hand.mem_KOps_st7 (Cert.KernelIdeal.Hand.mem_st_7_30 (List.getElem_mem (l := Cert.KernelIdeal.GenP.hostOps7_30 (F := Ideal)) (n := 7) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part32 (List.getElem_mem (l := Cert.ReferenceIdeal.Hand.ops_part32 (F := Ideal)) (n := 34) (by decide))) rfl rfl (by decide) (hx := ⟨by decide, rfl⟩) (hy := ⟨by decide, rfl⟩)
  rw [hk, hr, ← c_main_v424__main_v1593 hag hel]

theorem c_main_v429__main_v1598 : StableHlo.after Cert.KernelIdeal.Hand.KOps (Cert.KernelIdeal.Hand.Wl (F := Ideal) m ρ c) (Proc.devRef .tc Cert.KernelIdeal.main_v429) = StableHlo.after (Cert.ReferenceIdeal.Hand.ops (F := Ideal)) (StableHlo.launchContents m' c) (Proc.devRef .tc Cert.ReferenceIdeal.main_v1598) := by
  have hk := StableHlo.Ascending.eq_unary Cert.KernelIdeal.Hand.KOps_asc (Cert.KernelIdeal.Hand.Wl m ρ c) (Cert.KernelIdeal.Hand.mem_KOps_st7 (Cert.KernelIdeal.Hand.mem_st_7_30 (List.getElem_mem (l := Cert.KernelIdeal.GenP.hostOps7_30 (F := Ideal)) (n := 8) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part32 (List.getElem_mem (l := Cert.ReferenceIdeal.Hand.ops_part32 (F := Ideal)) (n := 35) (by decide))) rfl rfl (by decide) (hx := ⟨by decide, rfl⟩) (hy := ⟨by decide, rfl⟩)
  rw [hk, hr, ← c_main_v427__main_v1596 hag hel]

theorem c_main_v430__main_v1599 : StableHlo.after Cert.KernelIdeal.Hand.KOps (Cert.KernelIdeal.Hand.Wl (F := Ideal) m ρ c) (Proc.devRef .tc Cert.KernelIdeal.main_v430) = StableHlo.after (Cert.ReferenceIdeal.Hand.ops (F := Ideal)) (StableHlo.launchContents m' c) (Proc.devRef .tc Cert.ReferenceIdeal.main_v1599) := by
  have hk := StableHlo.Ascending.eq_binary Cert.KernelIdeal.Hand.KOps_asc (Cert.KernelIdeal.Hand.Wl m ρ c) (Cert.KernelIdeal.Hand.mem_KOps_st7 (Cert.KernelIdeal.Hand.mem_st_7_30 (List.getElem_mem (l := Cert.KernelIdeal.GenP.hostOps7_30 (F := Ideal)) (n := 9) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part32 (List.getElem_mem (l := Cert.ReferenceIdeal.Hand.ops_part32 (F := Ideal)) (n := 36) (by decide))) rfl rfl rfl (by decide) (by decide) (ha := ⟨by decide, rfl⟩) (hb := ⟨by decide, rfl⟩) (hy := ⟨by decide, rfl⟩)
  rw [hk, hr, ← c_main_v428__main_v1597 hag hel, ← c_main_v429__main_v1598 hag hel]

theorem c_main_cst_81__main_cst_341 : StableHlo.after Cert.KernelIdeal.Hand.KOps (Cert.KernelIdeal.Hand.Wl (F := Ideal) m ρ c) (Proc.devRef .tc Cert.KernelIdeal.main_cst_81) = StableHlo.after (Cert.ReferenceIdeal.Hand.ops (F := Ideal)) (StableHlo.launchContents m' c) (Proc.devRef .tc Cert.ReferenceIdeal.main_cst_341) := by
  have hk := StableHlo.Ascending.eq_nullary Cert.KernelIdeal.Hand.KOps_asc (Cert.KernelIdeal.Hand.Wl m ρ c) (Cert.KernelIdeal.Hand.mem_KOps_st7 (Cert.KernelIdeal.Hand.mem_st_7_30 (List.getElem_mem (l := Cert.KernelIdeal.GenP.hostOps7_30 (F := Ideal)) (n := 10) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part32 (List.getElem_mem (l := Cert.ReferenceIdeal.Hand.ops_part32 (F := Ideal)) (n := 37) (by decide))) rfl (hy := ⟨by decide, rfl⟩)
  rw [hk, hr]

theorem c_main_call16_cst__main_call74_cst : StableHlo.after Cert.KernelIdeal.Hand.KOps (Cert.KernelIdeal.Hand.Wl (F := Ideal) m ρ c) (Proc.devRef .tc Cert.KernelIdeal.main_call16_cst) = StableHlo.after (Cert.ReferenceIdeal.Hand.ops (F := Ideal)) (StableHlo.launchContents m' c) (Proc.devRef .tc Cert.ReferenceIdeal.main_call74_cst) := by
  have hk := StableHlo.Ascending.eq_nullary Cert.KernelIdeal.Hand.KOps_asc (Cert.KernelIdeal.Hand.Wl m ρ c) (Cert.KernelIdeal.Hand.mem_KOps_st7 (Cert.KernelIdeal.Hand.mem_st_7_31 (List.getElem_mem (l := Cert.KernelIdeal.GenP.hostOps7_31 (F := Ideal)) (n := 0) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part32 (List.getElem_mem (l := Cert.ReferenceIdeal.Hand.ops_part32 (F := Ideal)) (n := 38) (by decide))) rfl (hy := ⟨by decide, rfl⟩)
  rw [hk, hr]

theorem c_main_call16_v0__main_call74_v0 : StableHlo.after Cert.KernelIdeal.Hand.KOps (Cert.KernelIdeal.Hand.Wl (F := Ideal) m ρ c) (Proc.devRef .tc Cert.KernelIdeal.main_call16_v0) = StableHlo.after (Cert.ReferenceIdeal.Hand.ops (F := Ideal)) (StableHlo.launchContents m' c) (Proc.devRef .tc Cert.ReferenceIdeal.main_call74_v0) := by
  have hk := StableHlo.Ascending.eq_unary Cert.KernelIdeal.Hand.KOps_asc (Cert.KernelIdeal.Hand.Wl m ρ c) (Cert.KernelIdeal.Hand.mem_KOps_st7 (Cert.KernelIdeal.Hand.mem_st_7_31 (List.getElem_mem (l := Cert.KernelIdeal.GenP.hostOps7_31 (F := Ideal)) (n := 1) (by decide)))) rfl rfl (by decide) (x := Cert.KernelIdeal.main_call16_cst) (y := Cert.KernelIdeal.main_call16_v0) (f := open Cert.KernelIdeal Cert.KernelIdeal.Gen in (broadcastInDim S2048x2048 ![] bcast_S_S2048x2048)) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part32 (List.getElem_mem (l := Cert.ReferenceIdeal.Hand.ops_part32 (F := Ideal)) (n := 39) (by decide))) rfl rfl (by decide) (x := Cert.ReferenceIdeal.main_call74_cst) (y := Cert.ReferenceIdeal.main_call74_v0) (f := open Cert.ReferenceIdeal Cert.ReferenceIdeal.Gen in (broadcastInDim S2048x2048 ![] bcast_S_S2048x2048)) (hx := ⟨by decide, rfl⟩) (hy := ⟨by decide, rfl⟩)
  rw [hk, hr, ← c_main_call16_cst__main_call74_cst hag hel]

theorem c_main_call16_v1__main_call74_v1 : StableHlo.after Cert.KernelIdeal.Hand.KOps (Cert.KernelIdeal.Hand.Wl (F := Ideal) m ρ c) (Proc.devRef .tc Cert.KernelIdeal.main_call16_v1) = StableHlo.after (Cert.ReferenceIdeal.Hand.ops (F := Ideal)) (StableHlo.launchContents m' c) (Proc.devRef .tc Cert.ReferenceIdeal.main_call74_v1) := by
  have hk := StableHlo.Ascending.eq_binary Cert.KernelIdeal.Hand.KOps_asc (Cert.KernelIdeal.Hand.Wl m ρ c) (Cert.KernelIdeal.Hand.mem_KOps_st7 (Cert.KernelIdeal.Hand.mem_st_7_31 (List.getElem_mem (l := Cert.KernelIdeal.GenP.hostOps7_31 (F := Ideal)) (n := 2) (by decide)))) rfl rfl rfl (by decide) (by decide) (a := Cert.KernelIdeal.main_v430) (b := Cert.KernelIdeal.main_call16_v0) (y := Cert.KernelIdeal.main_call16_v1) (f := open Cert.KernelIdeal Cert.KernelIdeal.Gen in (cmpf (F := Ideal) .oge)) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part32 (List.getElem_mem (l := Cert.ReferenceIdeal.Hand.ops_part32 (F := Ideal)) (n := 40) (by decide))) rfl rfl rfl (by decide) (by decide) (a := Cert.ReferenceIdeal.main_v1599) (b := Cert.ReferenceIdeal.main_call74_v0) (y := Cert.ReferenceIdeal.main_call74_v1) (f := open Cert.ReferenceIdeal Cert.ReferenceIdeal.Gen in (cmpf (F := Ideal) .oge)) (ha := ⟨by decide, rfl⟩) (hb := ⟨by decide, rfl⟩) (hy := ⟨by decide, rfl⟩)
  rw [hk, hr, ← c_main_v430__main_v1599 hag hel, ← c_main_call16_v0__main_call74_v0 hag hel]

theorem c_main_call16_v2__main_call74_v2 : StableHlo.after Cert.KernelIdeal.Hand.KOps (Cert.KernelIdeal.Hand.Wl (F := Ideal) m ρ c) (Proc.devRef .tc Cert.KernelIdeal.main_call16_v2) = StableHlo.after (Cert.ReferenceIdeal.Hand.ops (F := Ideal)) (StableHlo.launchContents m' c) (Proc.devRef .tc Cert.ReferenceIdeal.main_call74_v2) := by
  have hk := StableHlo.Ascending.eq_unary Cert.KernelIdeal.Hand.KOps_asc (Cert.KernelIdeal.Hand.Wl m ρ c) (Cert.KernelIdeal.Hand.mem_KOps_st7 (Cert.KernelIdeal.Hand.mem_st_7_31 (List.getElem_mem (l := Cert.KernelIdeal.GenP.hostOps7_31 (F := Ideal)) (n := 3) (by decide)))) rfl rfl (by decide) (x := Cert.KernelIdeal.main_cst_81) (y := Cert.KernelIdeal.main_call16_v2) (f := open Cert.KernelIdeal Cert.KernelIdeal.Gen in id) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part32 (List.getElem_mem (l := Cert.ReferenceIdeal.Hand.ops_part32 (F := Ideal)) (n := 41) (by decide))) rfl rfl (by decide) (x := Cert.ReferenceIdeal.main_cst_341) (y := Cert.ReferenceIdeal.main_call74_v2) (f := open Cert.ReferenceIdeal Cert.ReferenceIdeal.Gen in id) (hx := ⟨by decide, rfl⟩) (hy := ⟨by decide, rfl⟩)
  rw [hk, hr, ← c_main_cst_81__main_cst_341 hag hel]

theorem c_main_call16_v3__main_call74_v3 : StableHlo.after Cert.KernelIdeal.Hand.KOps (Cert.KernelIdeal.Hand.Wl (F := Ideal) m ρ c) (Proc.devRef .tc Cert.KernelIdeal.main_call16_v3) = StableHlo.after (Cert.ReferenceIdeal.Hand.ops (F := Ideal)) (StableHlo.launchContents m' c) (Proc.devRef .tc Cert.ReferenceIdeal.main_call74_v3) := by
  have hk := StableHlo.Ascending.eq_unary Cert.KernelIdeal.Hand.KOps_asc (Cert.KernelIdeal.Hand.Wl m ρ c) (Cert.KernelIdeal.Hand.mem_KOps_st7 (Cert.KernelIdeal.Hand.mem_st_7_31 (List.getElem_mem (l := Cert.KernelIdeal.GenP.hostOps7_31 (F := Ideal)) (n := 4) (by decide)))) rfl rfl (by decide) (x := Cert.KernelIdeal.main_call16_v2) (y := Cert.KernelIdeal.main_call16_v3) (f := open Cert.KernelIdeal Cert.KernelIdeal.Gen in (broadcastInDim S2048x2048 ![] bcast_S_S2048x2048)) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part32 (List.getElem_mem (l := Cert.ReferenceIdeal.Hand.ops_part32 (F := Ideal)) (n := 42) (by decide))) rfl rfl (by decide) (x := Cert.ReferenceIdeal.main_call74_v2) (y := Cert.ReferenceIdeal.main_call74_v3) (f := open Cert.ReferenceIdeal Cert.ReferenceIdeal.Gen in (broadcastInDim S2048x2048 ![] bcast_S_S2048x2048)) (hx := ⟨by decide, rfl⟩) (hy := ⟨by decide, rfl⟩)
  rw [hk, hr, ← c_main_call16_v2__main_call74_v2 hag hel]

theorem c_main_call16_v4__main_call74_v4 : StableHlo.after Cert.KernelIdeal.Hand.KOps (Cert.KernelIdeal.Hand.Wl (F := Ideal) m ρ c) (Proc.devRef .tc Cert.KernelIdeal.main_call16_v4) = StableHlo.after (Cert.ReferenceIdeal.Hand.ops (F := Ideal)) (StableHlo.launchContents m' c) (Proc.devRef .tc Cert.ReferenceIdeal.main_call74_v4) := by
  have hk := StableHlo.Ascending.eq_binary Cert.KernelIdeal.Hand.KOps_asc (Cert.KernelIdeal.Hand.Wl m ρ c) (Cert.KernelIdeal.Hand.mem_KOps_st7 (Cert.KernelIdeal.Hand.mem_st_7_31 (List.getElem_mem (l := Cert.KernelIdeal.GenP.hostOps7_31 (F := Ideal)) (n := 5) (by decide)))) rfl rfl rfl (by decide) (by decide) (a := Cert.KernelIdeal.main_call16_v3) (b := Cert.KernelIdeal.main_v430) (y := Cert.KernelIdeal.main_call16_v4) (f := open Cert.KernelIdeal Cert.KernelIdeal.Gen in mulf (F := Ideal)) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part32 (List.getElem_mem (l := Cert.ReferenceIdeal.Hand.ops_part32 (F := Ideal)) (n := 43) (by decide))) rfl rfl rfl (by decide) (by decide) (a := Cert.ReferenceIdeal.main_call74_v3) (b := Cert.ReferenceIdeal.main_v1599) (y := Cert.ReferenceIdeal.main_call74_v4) (f := open Cert.ReferenceIdeal Cert.ReferenceIdeal.Gen in mulf (F := Ideal)) (ha := ⟨by decide, rfl⟩) (hb := ⟨by decide, rfl⟩) (hy := ⟨by decide, rfl⟩)
  rw [hk, hr, ← c_main_call16_v3__main_call74_v3 hag hel, ← c_main_v430__main_v1599 hag hel]

theorem c_main_v431__main_v1600 : StableHlo.after Cert.KernelIdeal.Hand.KOps (Cert.KernelIdeal.Hand.Wl (F := Ideal) m ρ c) (Proc.devRef .tc Cert.KernelIdeal.main_v431) = StableHlo.after (Cert.ReferenceIdeal.Hand.ops (F := Ideal)) (StableHlo.launchContents m' c) (Proc.devRef .tc Cert.ReferenceIdeal.main_v1600) := by
  have hk := StableHlo.Ascending.eq_ternary Cert.KernelIdeal.Hand.KOps_asc (Cert.KernelIdeal.Hand.Wl m ρ c) (Cert.KernelIdeal.Hand.mem_KOps_st7 (Cert.KernelIdeal.Hand.mem_st_7_31 (List.getElem_mem (l := Cert.KernelIdeal.GenP.hostOps7_31 (F := Ideal)) (n := 6) (by decide)))) rfl rfl rfl rfl (by decide) (by decide) (by decide) (c := Cert.KernelIdeal.main_call16_v1) (a := Cert.KernelIdeal.main_v430) (b := Cert.KernelIdeal.main_call16_v4) (y := Cert.KernelIdeal.main_v431) (f := (select : (⟨Cert.KernelIdeal.S2048x2048, .i1⟩ : BufTy).Contents (Elt Ideal) → (⟨Cert.KernelIdeal.S2048x2048, .f32⟩ : BufTy).Contents (Elt Ideal) → (⟨Cert.KernelIdeal.S2048x2048, .f32⟩ : BufTy).Contents (Elt Ideal) → (⟨Cert.KernelIdeal.S2048x2048, .f32⟩ : BufTy).Contents (Elt Ideal))) (hc := ⟨by decide, rfl⟩) (ha := ⟨by decide, rfl⟩) (hb := ⟨by decide, rfl⟩) (hy := ⟨by decide, rfl⟩)
  have hr := StableHlo.Ascending.eq_ternary (Cert.ReferenceIdeal.Hand.ops_asc (F := Ideal)) (StableHlo.launchContents m' c) (Cert.ReferenceIdeal.Hand.mem_ops_part32 (List.getElem_mem (l := Cert.ReferenceIdeal.Hand.ops_part32 (F := Ideal)) (n := 44) (by decide))) rfl rfl rfl rfl (by decide) (by decide) (by decide) (c := Cert.ReferenceIdeal.main_call74_v1) (a := Cert.ReferenceIdeal.main_v1599) (b := Cert.ReferenceIdeal.main_call74_v4) (y := Cert.ReferenceIdeal.main_v1600) (f := (select : (⟨Cert.ReferenceIdeal.S2048x2048, .i1⟩ : BufTy).Contents (Elt Ideal) → (⟨Cert.ReferenceIdeal.S2048x2048, .f32⟩ : BufTy).Contents (Elt Ideal) → (⟨Cert.ReferenceIdeal.S2048x2048, .f32⟩ : BufTy).Contents (Elt Ideal) → (⟨Cert.ReferenceIdeal.S2048x2048, .f32⟩ : BufTy).Contents (Elt Ideal))) (hc := ⟨by decide, rfl⟩) (ha := ⟨by decide, rfl⟩) (hb := ⟨by decide, rfl⟩) (hy := ⟨by decide, rfl⟩)
  rw [hk, hr, ← c_main_call16_v1__main_call74_v1 hag hel, ← c_main_v430__main_v1599 hag hel, ← c_main_call16_v4__main_call74_v4 hag hel]

theorem c_main_cst_82__main_cst_342 : StableHlo.after Cert.KernelIdeal.Hand.KOps (Cert.KernelIdeal.Hand.Wl (F := Ideal) m ρ c) (Proc.devRef .tc Cert.KernelIdeal.main_cst_82) = StableHlo.after (Cert.ReferenceIdeal.Hand.ops (F := Ideal)) (StableHlo.launchContents m' c) (Proc.devRef .tc Cert.ReferenceIdeal.main_cst_342) := by
  have hk := StableHlo.Ascending.eq_nullary Cert.KernelIdeal.Hand.KOps_asc (Cert.KernelIdeal.Hand.Wl m ρ c) (Cert.KernelIdeal.Hand.mem_KOps_st7 (Cert.KernelIdeal.Hand.mem_st_7_32 (List.getElem_mem (l := Cert.KernelIdeal.GenP.hostOps7_32 (F := Ideal)) (n := 0) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part32 (List.getElem_mem (l := Cert.ReferenceIdeal.Hand.ops_part32 (F := Ideal)) (n := 45) (by decide))) rfl (hy := ⟨by decide, rfl⟩)
  rw [hk, hr]

end Cert.Value

end
-- ==== Proof.Val.C013.lean ====
/- Steps C013 of the value claim's chain: for each listed pair, the kernel program's buffer and its reference twin hold equal contents at the two programs' final
   valuations — the two operations are the same function (read off the two operation lists) of operands already paired. A table; written by: bun scratch/corr.js 60 -/
import proofs.«146970_j35948876268088_1_alg».proof.Proof.Val.Seed
import proofs.«146970_j35948876268088_1_alg».proof.Proof.KI.Dots
import Mathlib.Tactic.FinCases
import proofs.«146970_j35948876268088_1_alg».proof.Proof.Val.C000
import proofs.«146970_j35948876268088_1_alg».proof.Proof.Val.C001
import proofs.«146970_j35948876268088_1_alg».proof.Proof.Val.C003
import proofs.«146970_j35948876268088_1_alg».proof.Proof.Val.C006
import proofs.«146970_j35948876268088_1_alg».proof.Proof.Val.C012

set_option maxRecDepth 16384

noncomputable section

namespace Cert.Value

open Idealize.ShloMosaic Idealize.ShloMosaic.TcCoe Idealize.SL.Sem

variable {m : (ℓ : Loc Cert.KernelIdeal.nD Cert.KernelIdeal.τ Cert.KernelIdeal.sig) → Buf (Elt Ideal) ℓ} {ρ : Dev Cert.KernelIdeal.nD → PrngReg}
  {m' : (ℓ : Loc Cert.ReferenceIdeal.nD Cert.ReferenceIdeal.τ Cert.ReferenceIdeal.sig) → Buf (Elt Ideal) ℓ} {c : Dev Cert.KernelIdeal.nD} (hag : Agree m m') (hel : Els m' c)
include hag hel

theorem c_main_v432__main_v1601 : StableHlo.after Cert.KernelIdeal.Hand.KOps (Cert.KernelIdeal.Hand.Wl (F := Ideal) m ρ c) (Proc.devRef .tc Cert.KernelIdeal.main_v432) = StableHlo.after (Cert.ReferenceIdeal.Hand.ops (F := Ideal)) (StableHlo.launchContents m' c) (Proc.devRef .tc Cert.ReferenceIdeal.main_v1601) := by
  have hk := StableHlo.Ascending.eq_binary Cert.KernelIdeal.Hand.KOps_asc (Cert.KernelIdeal.Hand.Wl m ρ c) (Cert.KernelIdeal.Hand.mem_KOps_st7 (Cert.KernelIdeal.Hand.mem_st_7_32 (List.getElem_mem (l := Cert.KernelIdeal.GenP.hostOps7_32 (F := Ideal)) (n := 1) (by decide)))) rfl rfl rfl (by decide) (by decide) (a := Cert.KernelIdeal.main_v200) (b := Cert.KernelIdeal.main_cst_82) (y := Cert.KernelIdeal.main_v432) (f := open Cert.KernelIdeal Cert.KernelIdeal.Gen in (fun x v => Host.reduce (FloatOps.minimumf (F := Ideal)) x v reducesTo_S2048x1_S_d0_1 h_S_)) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part32 (List.getElem_mem (l := Cert.ReferenceIdeal.Hand.ops_part32 (F := Ideal)) (n := 46) (by decide))) rfl rfl rfl (by decide) (by decide) (a := Cert.ReferenceIdeal.main_v1546) (b := Cert.ReferenceIdeal.main_cst_342) (y := Cert.ReferenceIdeal.main_v1601) (f := open Cert.ReferenceIdeal Cert.ReferenceIdeal.Gen in (fun x v => Host.reduce (FloatOps.minimumf (F := Ideal)) x v reducesTo_S2048x1_S_d0_1 h_S_)) (ha := ⟨by decide, rfl⟩) (hb := ⟨by decide, rfl⟩) (hy := ⟨by decide, rfl⟩)
  rw [hk, hr, ← c_main_v200__main_v1546 hag hel, ← c_main_cst_82__main_cst_342 hag hel]

theorem c_main_v433__main_v1602 : StableHlo.after Cert.KernelIdeal.Hand.KOps (Cert.KernelIdeal.Hand.Wl (F := Ideal) m ρ c) (Proc.devRef .tc Cert.KernelIdeal.main_v433) = StableHlo.after (Cert.ReferenceIdeal.Hand.ops (F := Ideal)) (StableHlo.launchContents m' c) (Proc.devRef .tc Cert.ReferenceIdeal.main_v1602) := by
  have hk := StableHlo.Ascending.eq_unary Cert.KernelIdeal.Hand.KOps_asc (Cert.KernelIdeal.Hand.Wl m ρ c) (Cert.KernelIdeal.Hand.mem_KOps_st7 (Cert.KernelIdeal.Hand.mem_st_7_32 (List.getElem_mem (l := Cert.KernelIdeal.GenP.hostOps7_32 (F := Ideal)) (n := 2) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part32 (List.getElem_mem (l := Cert.ReferenceIdeal.Hand.ops_part32 (F := Ideal)) (n := 47) (by decide))) rfl rfl (by decide) (hx := ⟨by decide, rfl⟩) (hy := ⟨by decide, rfl⟩)
  rw [hk, hr, ← c_main_v432__main_v1601 hag hel]

theorem c_main_v434__main_v1603 : StableHlo.after Cert.KernelIdeal.Hand.KOps (Cert.KernelIdeal.Hand.Wl (F := Ideal) m ρ c) (Proc.devRef .tc Cert.KernelIdeal.main_v434) = StableHlo.after (Cert.ReferenceIdeal.Hand.ops (F := Ideal)) (StableHlo.launchContents m' c) (Proc.devRef .tc Cert.ReferenceIdeal.main_v1603) := by
  have hk := StableHlo.Ascending.eq_binary Cert.KernelIdeal.Hand.KOps_asc (Cert.KernelIdeal.Hand.Wl m ρ c) (Cert.KernelIdeal.Hand.mem_KOps_st7 (Cert.KernelIdeal.Hand.mem_st_7_32 (List.getElem_mem (l := Cert.KernelIdeal.GenP.hostOps7_32 (F := Ideal)) (n := 3) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part32 (List.getElem_mem (l := Cert.ReferenceIdeal.Hand.ops_part32 (F := Ideal)) (n := 48) (by decide))) rfl rfl rfl (by decide) (by decide) (ha := ⟨by decide, rfl⟩) (hb := ⟨by decide, rfl⟩) (hy := ⟨by decide, rfl⟩)
  rw [hk, hr, ← c_main_v200__main_v1546 hag hel, ← c_main_v433__main_v1602 hag hel]

theorem c_main_cst_83__main_cst_343 : StableHlo.after Cert.KernelIdeal.Hand.KOps (Cert.KernelIdeal.Hand.Wl (F := Ideal) m ρ c) (Proc.devRef .tc Cert.KernelIdeal.main_cst_83) = StableHlo.after (Cert.ReferenceIdeal.Hand.ops (F := Ideal)) (StableHlo.launchContents m' c) (Proc.devRef .tc Cert.ReferenceIdeal.main_cst_343) := by
  have hk := StableHlo.Ascending.eq_nullary Cert.KernelIdeal.Hand.KOps_asc (Cert.KernelIdeal.Hand.Wl m ρ c) (Cert.KernelIdeal.Hand.mem_KOps_st7 (Cert.KernelIdeal.Hand.mem_st_7_32 (List.getElem_mem (l := Cert.KernelIdeal.GenP.hostOps7_32 (F := Ideal)) (n := 4) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part32 (List.getElem_mem (l := Cert.ReferenceIdeal.Hand.ops_part32 (F := Ideal)) (n := 49) (by decide))) rfl (hy := ⟨by decide, rfl⟩)
  rw [hk, hr]

theorem c_main_v435__main_v1604 : StableHlo.after Cert.KernelIdeal.Hand.KOps (Cert.KernelIdeal.Hand.Wl (F := Ideal) m ρ c) (Proc.devRef .tc Cert.KernelIdeal.main_v435) = StableHlo.after (Cert.ReferenceIdeal.Hand.ops (F := Ideal)) (StableHlo.launchContents m' c) (Proc.devRef .tc Cert.ReferenceIdeal.main_v1604) := by
  have hk := StableHlo.Ascending.eq_binary Cert.KernelIdeal.Hand.KOps_asc (Cert.KernelIdeal.Hand.Wl m ρ c) (Cert.KernelIdeal.Hand.mem_KOps_st7 (Cert.KernelIdeal.Hand.mem_st_7_32 (List.getElem_mem (l := Cert.KernelIdeal.GenP.hostOps7_32 (F := Ideal)) (n := 5) (by decide)))) rfl rfl rfl (by decide) (by decide) (a := Cert.KernelIdeal.main_v200) (b := Cert.KernelIdeal.main_cst_83) (y := Cert.KernelIdeal.main_v435) (f := open Cert.KernelIdeal Cert.KernelIdeal.Gen in (fun x v => Host.reduce (FloatOps.maximumf (F := Ideal)) x v reducesTo_S2048x1_S_d0_1 h_S_)) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part32 (List.getElem_mem (l := Cert.ReferenceIdeal.Hand.ops_part32 (F := Ideal)) (n := 50) (by decide))) rfl rfl rfl (by decide) (by decide) (a := Cert.ReferenceIdeal.main_v1546) (b := Cert.ReferenceIdeal.main_cst_343) (y := Cert.ReferenceIdeal.main_v1604) (f := open Cert.ReferenceIdeal Cert.ReferenceIdeal.Gen in (fun x v => Host.reduce (FloatOps.maximumf (F := Ideal)) x v reducesTo_S2048x1_S_d0_1 h_S_)) (ha := ⟨by decide, rfl⟩) (hb := ⟨by decide, rfl⟩) (hy := ⟨by decide, rfl⟩)
  rw [hk, hr, ← c_main_v200__main_v1546 hag hel, ← c_main_cst_83__main_cst_343 hag hel]

theorem c_main_cst_84__main_cst_344 : StableHlo.after Cert.KernelIdeal.Hand.KOps (Cert.KernelIdeal.Hand.Wl (F := Ideal) m ρ c) (Proc.devRef .tc Cert.KernelIdeal.main_cst_84) = StableHlo.after (Cert.ReferenceIdeal.Hand.ops (F := Ideal)) (StableHlo.launchContents m' c) (Proc.devRef .tc Cert.ReferenceIdeal.main_cst_344) := by
  have hk := StableHlo.Ascending.eq_nullary Cert.KernelIdeal.Hand.KOps_asc (Cert.KernelIdeal.Hand.Wl m ρ c) (Cert.KernelIdeal.Hand.mem_KOps_st7 (Cert.KernelIdeal.Hand.mem_st_7_32 (List.getElem_mem (l := Cert.KernelIdeal.GenP.hostOps7_32 (F := Ideal)) (n := 6) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part32 (List.getElem_mem (l := Cert.ReferenceIdeal.Hand.ops_part32 (F := Ideal)) (n := 51) (by decide))) rfl (hy := ⟨by decide, rfl⟩)
  rw [hk, hr]

theorem c_main_v436__main_v1605 : StableHlo.after Cert.KernelIdeal.Hand.KOps (Cert.KernelIdeal.Hand.Wl (F := Ideal) m ρ c) (Proc.devRef .tc Cert.KernelIdeal.main_v436) = StableHlo.after (Cert.ReferenceIdeal.Hand.ops (F := Ideal)) (StableHlo.launchContents m' c) (Proc.devRef .tc Cert.ReferenceIdeal.main_v1605) := by
  have hk := StableHlo.Ascending.eq_binary Cert.KernelIdeal.Hand.KOps_asc (Cert.KernelIdeal.Hand.Wl m ρ c) (Cert.KernelIdeal.Hand.mem_KOps_st7 (Cert.KernelIdeal.Hand.mem_st_7_32 (List.getElem_mem (l := Cert.KernelIdeal.GenP.hostOps7_32 (F := Ideal)) (n := 7) (by decide)))) rfl rfl rfl (by decide) (by decide) (a := Cert.KernelIdeal.main_v200) (b := Cert.KernelIdeal.main_cst_84) (y := Cert.KernelIdeal.main_v436) (f := open Cert.KernelIdeal Cert.KernelIdeal.Gen in (fun x v => Host.reduce (FloatOps.minimumf (F := Ideal)) x v reducesTo_S2048x1_S_d0_1 h_S_)) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part32 (List.getElem_mem (l := Cert.ReferenceIdeal.Hand.ops_part32 (F := Ideal)) (n := 52) (by decide))) rfl rfl rfl (by decide) (by decide) (a := Cert.ReferenceIdeal.main_v1546) (b := Cert.ReferenceIdeal.main_cst_344) (y := Cert.ReferenceIdeal.main_v1605) (f := open Cert.ReferenceIdeal Cert.ReferenceIdeal.Gen in (fun x v => Host.reduce (FloatOps.minimumf (F := Ideal)) x v reducesTo_S2048x1_S_d0_1 h_S_)) (ha := ⟨by decide, rfl⟩) (hb := ⟨by decide, rfl⟩) (hy := ⟨by decide, rfl⟩)
  rw [hk, hr, ← c_main_v200__main_v1546 hag hel, ← c_main_cst_84__main_cst_344 hag hel]

theorem c_main_v437__main_v1606 : StableHlo.after Cert.KernelIdeal.Hand.KOps (Cert.KernelIdeal.Hand.Wl (F := Ideal) m ρ c) (Proc.devRef .tc Cert.KernelIdeal.main_v437) = StableHlo.after (Cert.ReferenceIdeal.Hand.ops (F := Ideal)) (StableHlo.launchContents m' c) (Proc.devRef .tc Cert.ReferenceIdeal.main_v1606) := by
  have hk := StableHlo.Ascending.eq_binary Cert.KernelIdeal.Hand.KOps_asc (Cert.KernelIdeal.Hand.Wl m ρ c) (Cert.KernelIdeal.Hand.mem_KOps_st7 (Cert.KernelIdeal.Hand.mem_st_7_32 (List.getElem_mem (l := Cert.KernelIdeal.GenP.hostOps7_32 (F := Ideal)) (n := 8) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part32 (List.getElem_mem (l := Cert.ReferenceIdeal.Hand.ops_part32 (F := Ideal)) (n := 53) (by decide))) rfl rfl rfl (by decide) (by decide) (ha := ⟨by decide, rfl⟩) (hb := ⟨by decide, rfl⟩) (hy := ⟨by decide, rfl⟩)
  rw [hk, hr, ← c_main_v435__main_v1604 hag hel, ← c_main_v436__main_v1605 hag hel]

theorem c_main_v438__main_v1607 : StableHlo.after Cert.KernelIdeal.Hand.KOps (Cert.KernelIdeal.Hand.Wl (F := Ideal) m ρ c) (Proc.devRef .tc Cert.KernelIdeal.main_v438) = StableHlo.after (Cert.ReferenceIdeal.Hand.ops (F := Ideal)) (StableHlo.launchContents m' c) (Proc.devRef .tc Cert.ReferenceIdeal.main_v1607) := by
  have hk := StableHlo.Ascending.eq_unary Cert.KernelIdeal.Hand.KOps_asc (Cert.KernelIdeal.Hand.Wl m ρ c) (Cert.KernelIdeal.Hand.mem_KOps_st7 (Cert.KernelIdeal.Hand.mem_st_7_32 (List.getElem_mem (l := Cert.KernelIdeal.GenP.hostOps7_32 (F := Ideal)) (n := 9) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part32 (List.getElem_mem (l := Cert.ReferenceIdeal.Hand.ops_part32 (F := Ideal)) (n := 54) (by decide))) rfl rfl (by decide) (hx := ⟨by decide, rfl⟩) (hy := ⟨by decide, rfl⟩)
  rw [hk, hr, ← c_main_v437__main_v1606 hag hel]

theorem c_main_v439__main_v1608 : StableHlo.after Cert.KernelIdeal.Hand.KOps (Cert.KernelIdeal.Hand.Wl (F := Ideal) m ρ c) (Proc.devRef .tc Cert.KernelIdeal.main_v439) = StableHlo.after (Cert.ReferenceIdeal.Hand.ops (F := Ideal)) (StableHlo.launchContents m' c) (Proc.devRef .tc Cert.ReferenceIdeal.main_v1608) := by
  have hk := StableHlo.Ascending.eq_binary Cert.KernelIdeal.Hand.KOps_asc (Cert.KernelIdeal.Hand.Wl m ρ c) (Cert.KernelIdeal.Hand.mem_KOps_st7 (Cert.KernelIdeal.Hand.mem_st_7_32 (List.getElem_mem (l := Cert.KernelIdeal.GenP.hostOps7_32 (F := Ideal)) (n := 10) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part32 (List.getElem_mem (l := Cert.ReferenceIdeal.Hand.ops_part32 (F := Ideal)) (n := 55) (by decide))) rfl rfl rfl (by decide) (by decide) (ha := ⟨by decide, rfl⟩) (hb := ⟨by decide, rfl⟩) (hy := ⟨by decide, rfl⟩)
  rw [hk, hr, ← c_main_v434__main_v1603 hag hel, ← c_main_v438__main_v1607 hag hel]

theorem c_main_cst_85__main_cst_345 : StableHlo.after Cert.KernelIdeal.Hand.KOps (Cert.KernelIdeal.Hand.Wl (F := Ideal) m ρ c) (Proc.devRef .tc Cert.KernelIdeal.main_cst_85) = StableHlo.after (Cert.ReferenceIdeal.Hand.ops (F := Ideal)) (StableHlo.launchContents m' c) (Proc.devRef .tc Cert.ReferenceIdeal.main_cst_345) := by
  have hk := StableHlo.Ascending.eq_nullary Cert.KernelIdeal.Hand.KOps_asc (Cert.KernelIdeal.Hand.Wl m ρ c) (Cert.KernelIdeal.Hand.mem_KOps_st7 (Cert.KernelIdeal.Hand.mem_st_7_32 (List.getElem_mem (l := Cert.KernelIdeal.GenP.hostOps7_32 (F := Ideal)) (n := 11) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part32 (List.getElem_mem (l := Cert.ReferenceIdeal.Hand.ops_part32 (F := Ideal)) (n := 56) (by decide))) rfl (hy := ⟨by decide, rfl⟩)
  rw [hk, hr]

theorem c_main_v440__main_v1609 : StableHlo.after Cert.KernelIdeal.Hand.KOps (Cert.KernelIdeal.Hand.Wl (F := Ideal) m ρ c) (Proc.devRef .tc Cert.KernelIdeal.main_v440) = StableHlo.after (Cert.ReferenceIdeal.Hand.ops (F := Ideal)) (StableHlo.launchContents m' c) (Proc.devRef .tc Cert.ReferenceIdeal.main_v1609) := by
  have hk := StableHlo.Ascending.eq_binary Cert.KernelIdeal.Hand.KOps_asc (Cert.KernelIdeal.Hand.Wl m ρ c) (Cert.KernelIdeal.Hand.mem_KOps_st7 (Cert.KernelIdeal.Hand.mem_st_7_32 (List.getElem_mem (l := Cert.KernelIdeal.GenP.hostOps7_32 (F := Ideal)) (n := 12) (by decide)))) rfl rfl rfl (by decide) (by decide) (a := Cert.KernelIdeal.main_v431) (b := Cert.KernelIdeal.main_cst_85) (y := Cert.KernelIdeal.main_v440) (f := open Cert.KernelIdeal Cert.KernelIdeal.Gen in (fun x v => Host.reduce (FloatOps.maximumf (F := Ideal)) x v reducesTo_S2048x2048_S_d0_1 h_S_)) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part32 (List.getElem_mem (l := Cert.ReferenceIdeal.Hand.ops_part32 (F := Ideal)) (n := 57) (by decide))) rfl rfl rfl (by decide) (by decide) (a := Cert.ReferenceIdeal.main_v1600) (b := Cert.ReferenceIdeal.main_cst_345) (y := Cert.ReferenceIdeal.main_v1609) (f := open Cert.ReferenceIdeal Cert.ReferenceIdeal.Gen in (fun x v => Host.reduce (FloatOps.maximumf (F := Ideal)) x v reducesTo_S2048x2048_S_d0_1 h_S_)) (ha := ⟨by decide, rfl⟩) (hb := ⟨by decide, rfl⟩) (hy := ⟨by decide, rfl⟩)
  rw [hk, hr, ← c_main_v431__main_v1600 hag hel, ← c_main_cst_85__main_cst_345 hag hel]

theorem c_main_v441__main_v1610 : StableHlo.after Cert.KernelIdeal.Hand.KOps (Cert.KernelIdeal.Hand.Wl (F := Ideal) m ρ c) (Proc.devRef .tc Cert.KernelIdeal.main_v441) = StableHlo.after (Cert.ReferenceIdeal.Hand.ops (F := Ideal)) (StableHlo.launchContents m' c) (Proc.devRef .tc Cert.ReferenceIdeal.main_v1610) := by
  have hk := StableHlo.Ascending.eq_unary Cert.KernelIdeal.Hand.KOps_asc (Cert.KernelIdeal.Hand.Wl m ρ c) (Cert.KernelIdeal.Hand.mem_KOps_st7 (Cert.KernelIdeal.Hand.mem_st_7_32 (List.getElem_mem (l := Cert.KernelIdeal.GenP.hostOps7_32 (F := Ideal)) (n := 13) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part32 (List.getElem_mem (l := Cert.ReferenceIdeal.Hand.ops_part32 (F := Ideal)) (n := 58) (by decide))) rfl rfl (by decide) (hx := ⟨by decide, rfl⟩) (hy := ⟨by decide, rfl⟩)
  rw [hk, hr, ← c_main_v440__main_v1609 hag hel]

theorem c_main_v442__main_v1611 : StableHlo.after Cert.KernelIdeal.Hand.KOps (Cert.KernelIdeal.Hand.Wl (F := Ideal) m ρ c) (Proc.devRef .tc Cert.KernelIdeal.main_v442) = StableHlo.after (Cert.ReferenceIdeal.Hand.ops (F := Ideal)) (StableHlo.launchContents m' c) (Proc.devRef .tc Cert.ReferenceIdeal.main_v1611) := by
  have hk := StableHlo.Ascending.eq_binary Cert.KernelIdeal.Hand.KOps_asc (Cert.KernelIdeal.Hand.Wl m ρ c) (Cert.KernelIdeal.Hand.mem_KOps_st7 (Cert.KernelIdeal.Hand.mem_st_7_32 (List.getElem_mem (l := Cert.KernelIdeal.GenP.hostOps7_32 (F := Ideal)) (n := 14) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part32 (List.getElem_mem (l := Cert.ReferenceIdeal.Hand.ops_part32 (F := Ideal)) (n := 59) (by decide))) rfl rfl rfl (by decide) (by decide) (ha := ⟨by decide, rfl⟩) (hb := ⟨by decide, rfl⟩) (hy := ⟨by decide, rfl⟩)
  rw [hk, hr, ← c_main_v439__main_v1608 hag hel, ← c_main_v441__main_v1610 hag hel]

theorem c_main_cst_86__main_cst_346 : StableHlo.after Cert.KernelIdeal.Hand.KOps (Cert.KernelIdeal.Hand.Wl (F := Ideal) m ρ c) (Proc.devRef .tc Cert.KernelIdeal.main_cst_86) = StableHlo.after (Cert.ReferenceIdeal.Hand.ops (F := Ideal)) (StableHlo.launchContents m' c) (Proc.devRef .tc Cert.ReferenceIdeal.main_cst_346) := by
  have hk := StableHlo.Ascending.eq_nullary Cert.KernelIdeal.Hand.KOps_asc (Cert.KernelIdeal.Hand.Wl m ρ c) (Cert.KernelIdeal.Hand.mem_KOps_st7 (Cert.KernelIdeal.Hand.mem_st_7_32 (List.getElem_mem (l := Cert.KernelIdeal.GenP.hostOps7_32 (F := Ideal)) (n := 15) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part32 (List.getElem_mem (l := Cert.ReferenceIdeal.Hand.ops_part32 (F := Ideal)) (n := 60) (by decide))) rfl (hy := ⟨by decide, rfl⟩)
  rw [hk, hr]

theorem c_main_v443__main_v1612 : StableHlo.after Cert.KernelIdeal.Hand.KOps (Cert.KernelIdeal.Hand.Wl (F := Ideal) m ρ c) (Proc.devRef .tc Cert.KernelIdeal.main_v443) = StableHlo.after (Cert.ReferenceIdeal.Hand.ops (F := Ideal)) (StableHlo.launchContents m' c) (Proc.devRef .tc Cert.ReferenceIdeal.main_v1612) := by
  have hk := StableHlo.Ascending.eq_unary Cert.KernelIdeal.Hand.KOps_asc (Cert.KernelIdeal.Hand.Wl m ρ c) (Cert.KernelIdeal.Hand.mem_KOps_st7 (Cert.KernelIdeal.Hand.mem_st_7_32 (List.getElem_mem (l := Cert.KernelIdeal.GenP.hostOps7_32 (F := Ideal)) (n := 16) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part32 (List.getElem_mem (l := Cert.ReferenceIdeal.Hand.ops_part32 (F := Ideal)) (n := 61) (by decide))) rfl rfl (by decide) (hx := ⟨by decide, rfl⟩) (hy := ⟨by decide, rfl⟩)
  rw [hk, hr, ← c_main_cst_86__main_cst_346 hag hel]

theorem c_main_v444__main_v1613 : StableHlo.after Cert.KernelIdeal.Hand.KOps (Cert.KernelIdeal.Hand.Wl (F := Ideal) m ρ c) (Proc.devRef .tc Cert.KernelIdeal.main_v444) = StableHlo.after (Cert.ReferenceIdeal.Hand.ops (F := Ideal)) (StableHlo.launchContents m' c) (Proc.devRef .tc Cert.ReferenceIdeal.main_v1613) := by
  have hk := StableHlo.Ascending.eq_binary Cert.KernelIdeal.Hand.KOps_asc (Cert.KernelIdeal.Hand.Wl m ρ c) (Cert.KernelIdeal.Hand.mem_KOps_st7 (Cert.KernelIdeal.Hand.mem_st_7_32 (List.getElem_mem (l := Cert.KernelIdeal.GenP.hostOps7_32 (F := Ideal)) (n := 17) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part32 (List.getElem_mem (l := Cert.ReferenceIdeal.Hand.ops_part32 (F := Ideal)) (n := 62) (by decide))) rfl rfl rfl (by decide) (by decide) (ha := ⟨by decide, rfl⟩) (hb := ⟨by decide, rfl⟩) (hy := ⟨by decide, rfl⟩)
  rw [hk, hr, ← c_main_v24__main_v1589 hag hel, ← c_main_v443__main_v1612 hag hel]

theorem c_main_v445__main_v1614 : StableHlo.after Cert.KernelIdeal.Hand.KOps (Cert.KernelIdeal.Hand.Wl (F := Ideal) m ρ c) (Proc.devRef .tc Cert.KernelIdeal.main_v445) = StableHlo.after (Cert.ReferenceIdeal.Hand.ops (F := Ideal)) (StableHlo.launchContents m' c) (Proc.devRef .tc Cert.ReferenceIdeal.main_v1614) := by
  have hk := StableHlo.Ascending.eq_unary Cert.KernelIdeal.Hand.KOps_asc (Cert.KernelIdeal.Hand.Wl m ρ c) (Cert.KernelIdeal.Hand.mem_KOps_st7 (Cert.KernelIdeal.Hand.mem_st_7_32 (List.getElem_mem (l := Cert.KernelIdeal.GenP.hostOps7_32 (F := Ideal)) (n := 18) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part32 (List.getElem_mem (l := Cert.ReferenceIdeal.Hand.ops_part32 (F := Ideal)) (n := 63) (by decide))) rfl rfl (by decide) (hx := ⟨by decide, rfl⟩) (hy := ⟨by decide, rfl⟩)
  rw [hk, hr, ← c_main_v442__main_v1611 hag hel]

theorem c_main_v446__main_v1615 : StableHlo.after Cert.KernelIdeal.Hand.KOps (Cert.KernelIdeal.Hand.Wl (F := Ideal) m ρ c) (Proc.devRef .tc Cert.KernelIdeal.main_v446) = StableHlo.after (Cert.ReferenceIdeal.Hand.ops (F := Ideal)) (StableHlo.launchContents m' c) (Proc.devRef .tc Cert.ReferenceIdeal.main_v1615) := by
  have hk := StableHlo.Ascending.eq_binary Cert.KernelIdeal.Hand.KOps_asc (Cert.KernelIdeal.Hand.Wl m ρ c) (Cert.KernelIdeal.Hand.mem_KOps_st7 (Cert.KernelIdeal.Hand.mem_st_7_32 (List.getElem_mem (l := Cert.KernelIdeal.GenP.hostOps7_32 (F := Ideal)) (n := 19) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part32 (List.getElem_mem (l := Cert.ReferenceIdeal.Hand.ops_part32 (F := Ideal)) (n := 64) (by decide))) rfl rfl rfl (by decide) (by decide) (ha := ⟨by decide, rfl⟩) (hb := ⟨by decide, rfl⟩) (hy := ⟨by decide, rfl⟩)
  rw [hk, hr, ← c_main_v431__main_v1600 hag hel, ← c_main_v445__main_v1614 hag hel]

theorem c_main_cst_87__main_cst_347 : StableHlo.after Cert.KernelIdeal.Hand.KOps (Cert.KernelIdeal.Hand.Wl (F := Ideal) m ρ c) (Proc.devRef .tc Cert.KernelIdeal.main_cst_87) = StableHlo.after (Cert.ReferenceIdeal.Hand.ops (F := Ideal)) (StableHlo.launchContents m' c) (Proc.devRef .tc Cert.ReferenceIdeal.main_cst_347) := by
  have hk := StableHlo.Ascending.eq_nullary Cert.KernelIdeal.Hand.KOps_asc (Cert.KernelIdeal.Hand.Wl m ρ c) (Cert.KernelIdeal.Hand.mem_KOps_st7 (Cert.KernelIdeal.Hand.mem_st_7_32 (List.getElem_mem (l := Cert.KernelIdeal.GenP.hostOps7_32 (F := Ideal)) (n := 20) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part32 (List.getElem_mem (l := Cert.ReferenceIdeal.Hand.ops_part32 (F := Ideal)) (n := 65) (by decide))) rfl (hy := ⟨by decide, rfl⟩)
  rw [hk, hr]

theorem c_main_call17_v0__main_call75_v0 : StableHlo.after Cert.KernelIdeal.Hand.KOps (Cert.KernelIdeal.Hand.Wl (F := Ideal) m ρ c) (Proc.devRef .tc Cert.KernelIdeal.main_call17_v0) = StableHlo.after (Cert.ReferenceIdeal.Hand.ops (F := Ideal)) (StableHlo.launchContents m' c) (Proc.devRef .tc Cert.ReferenceIdeal.main_call75_v0) := by
  have hk := StableHlo.Ascending.eq_unary Cert.KernelIdeal.Hand.KOps_asc (Cert.KernelIdeal.Hand.Wl m ρ c) (Cert.KernelIdeal.Hand.mem_KOps_st7 (Cert.KernelIdeal.Hand.mem_st_7_33 (List.getElem_mem (l := Cert.KernelIdeal.GenP.hostOps7_33 (F := Ideal)) (n := 0) (by decide)))) rfl rfl (by decide) (x := Cert.KernelIdeal.main_cst_87) (y := Cert.KernelIdeal.main_call17_v0) (f := open Cert.KernelIdeal Cert.KernelIdeal.Gen in id) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part32 (List.getElem_mem (l := Cert.ReferenceIdeal.Hand.ops_part32 (F := Ideal)) (n := 66) (by decide))) rfl rfl (by decide) (x := Cert.ReferenceIdeal.main_cst_347) (y := Cert.ReferenceIdeal.main_call75_v0) (f := open Cert.ReferenceIdeal Cert.ReferenceIdeal.Gen in id) (hx := ⟨by decide, rfl⟩) (hy := ⟨by decide, rfl⟩)
  rw [hk, hr, ← c_main_cst_87__main_cst_347 hag hel]

theorem c_main_call17_v1__main_call75_v1 : StableHlo.after Cert.KernelIdeal.Hand.KOps (Cert.KernelIdeal.Hand.Wl (F := Ideal) m ρ c) (Proc.devRef .tc Cert.KernelIdeal.main_call17_v1) = StableHlo.after (Cert.ReferenceIdeal.Hand.ops (F := Ideal)) (StableHlo.launchContents m' c) (Proc.devRef .tc Cert.ReferenceIdeal.main_call75_v1) := by
  have hk := StableHlo.Ascending.eq_unary Cert.KernelIdeal.Hand.KOps_asc (Cert.KernelIdeal.Hand.Wl m ρ c) (Cert.KernelIdeal.Hand.mem_KOps_st7 (Cert.KernelIdeal.Hand.mem_st_7_33 (List.getElem_mem (l := Cert.KernelIdeal.GenP.hostOps7_33 (F := Ideal)) (n := 1) (by decide)))) rfl rfl (by decide) (x := Cert.KernelIdeal.main_call17_v0) (y := Cert.KernelIdeal.main_call17_v1) (f := open Cert.KernelIdeal Cert.KernelIdeal.Gen in (broadcastInDim S2048x2048 ![] bcast_S_S2048x2048)) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part32 (List.getElem_mem (l := Cert.ReferenceIdeal.Hand.ops_part32 (F := Ideal)) (n := 67) (by decide))) rfl rfl (by decide) (x := Cert.ReferenceIdeal.main_call75_v0) (y := Cert.ReferenceIdeal.main_call75_v1) (f := open Cert.ReferenceIdeal Cert.ReferenceIdeal.Gen in (broadcastInDim S2048x2048 ![] bcast_S_S2048x2048)) (hx := ⟨by decide, rfl⟩) (hy := ⟨by decide, rfl⟩)
  rw [hk, hr, ← c_main_call17_v0__main_call75_v0 hag hel]

theorem c_main_v447__main_v1616 : StableHlo.after Cert.KernelIdeal.Hand.KOps (Cert.KernelIdeal.Hand.Wl (F := Ideal) m ρ c) (Proc.devRef .tc Cert.KernelIdeal.main_v447) = StableHlo.after (Cert.ReferenceIdeal.Hand.ops (F := Ideal)) (StableHlo.launchContents m' c) (Proc.devRef .tc Cert.ReferenceIdeal.main_v1616) := by
  have hk := StableHlo.Ascending.eq_ternary Cert.KernelIdeal.Hand.KOps_asc (Cert.KernelIdeal.Hand.Wl m ρ c) (Cert.KernelIdeal.Hand.mem_KOps_st7 (Cert.KernelIdeal.Hand.mem_st_7_33 (List.getElem_mem (l := Cert.KernelIdeal.GenP.hostOps7_33 (F := Ideal)) (n := 2) (by decide)))) rfl rfl rfl rfl (by decide) (by decide) (by decide) (c := Cert.KernelIdeal.main_v444) (a := Cert.KernelIdeal.main_v446) (b := Cert.KernelIdeal.main_call17_v1) (y := Cert.KernelIdeal.main_v447) (f := (select : (⟨Cert.KernelIdeal.S2048x2048, .i1⟩ : BufTy).Contents (Elt Ideal) → (⟨Cert.KernelIdeal.S2048x2048, .f32⟩ : BufTy).Contents (Elt Ideal) → (⟨Cert.KernelIdeal.S2048x2048, .f32⟩ : BufTy).Contents (Elt Ideal) → (⟨Cert.KernelIdeal.S2048x2048, .f32⟩ : BufTy).Contents (Elt Ideal))) (hc := ⟨by decide, rfl⟩) (ha := ⟨by decide, rfl⟩) (hb := ⟨by decide, rfl⟩) (hy := ⟨by decide, rfl⟩)
  have hr := StableHlo.Ascending.eq_ternary (Cert.ReferenceIdeal.Hand.ops_asc (F := Ideal)) (StableHlo.launchContents m' c) (Cert.ReferenceIdeal.Hand.mem_ops_part32 (List.getElem_mem (l := Cert.ReferenceIdeal.Hand.ops_part32 (F := Ideal)) (n := 68) (by decide))) rfl rfl rfl rfl (by decide) (by decide) (by decide) (c := Cert.ReferenceIdeal.main_v1613) (a := Cert.ReferenceIdeal.main_v1615) (b := Cert.ReferenceIdeal.main_call75_v1) (y := Cert.ReferenceIdeal.main_v1616) (f := (select : (⟨Cert.ReferenceIdeal.S2048x2048, .i1⟩ : BufTy).Contents (Elt Ideal) → (⟨Cert.ReferenceIdeal.S2048x2048, .f32⟩ : BufTy).Contents (Elt Ideal) → (⟨Cert.ReferenceIdeal.S2048x2048, .f32⟩ : BufTy).Contents (Elt Ideal) → (⟨Cert.ReferenceIdeal.S2048x2048, .f32⟩ : BufTy).Contents (Elt Ideal))) (hc := ⟨by decide, rfl⟩) (ha := ⟨by decide, rfl⟩) (hb := ⟨by decide, rfl⟩) (hy := ⟨by decide, rfl⟩)
  rw [hk, hr, ← c_main_v444__main_v1613 hag hel, ← c_main_v446__main_v1615 hag hel, ← c_main_call17_v1__main_call75_v1 hag hel]

theorem c_main_cst_88__main_cst_348 : StableHlo.after Cert.KernelIdeal.Hand.KOps (Cert.KernelIdeal.Hand.Wl (F := Ideal) m ρ c) (Proc.devRef .tc Cert.KernelIdeal.main_cst_88) = StableHlo.after (Cert.ReferenceIdeal.Hand.ops (F := Ideal)) (StableHlo.launchContents m' c) (Proc.devRef .tc Cert.ReferenceIdeal.main_cst_348) := by
  have hk := StableHlo.Ascending.eq_nullary Cert.KernelIdeal.Hand.KOps_asc (Cert.KernelIdeal.Hand.Wl m ρ c) (Cert.KernelIdeal.Hand.mem_KOps_st7 (Cert.KernelIdeal.Hand.mem_st_7_34 (List.getElem_mem (l := Cert.KernelIdeal.GenP.hostOps7_34 (F := Ideal)) (n := 0) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part32 (List.getElem_mem (l := Cert.ReferenceIdeal.Hand.ops_part32 (F := Ideal)) (n := 69) (by decide))) rfl (hy := ⟨by decide, rfl⟩)
  rw [hk, hr]

theorem c_main_v448__main_v1617 : StableHlo.after Cert.KernelIdeal.Hand.KOps (Cert.KernelIdeal.Hand.Wl (F := Ideal) m ρ c) (Proc.devRef .tc Cert.KernelIdeal.main_v448) = StableHlo.after (Cert.ReferenceIdeal.Hand.ops (F := Ideal)) (StableHlo.launchContents m' c) (Proc.devRef .tc Cert.ReferenceIdeal.main_v1617) := by
  have hk := StableHlo.Ascending.eq_binary Cert.KernelIdeal.Hand.KOps_asc (Cert.KernelIdeal.Hand.Wl m ρ c) (Cert.KernelIdeal.Hand.mem_KOps_st7 (Cert.KernelIdeal.Hand.mem_st_7_34 (List.getElem_mem (l := Cert.KernelIdeal.GenP.hostOps7_34 (F := Ideal)) (n := 1) (by decide)))) rfl rfl rfl (by decide) (by decide) (a := Cert.KernelIdeal.main_v447) (b := Cert.KernelIdeal.main_cst_88) (y := Cert.KernelIdeal.main_v448) (f := open Cert.KernelIdeal Cert.KernelIdeal.Gen in (fun x v => Host.reduce (FloatOps.maximumf (F := Ideal)) x v reducesTo_S2048x2048_S2048_d1 h_S_)) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part32 (List.getElem_mem (l := Cert.ReferenceIdeal.Hand.ops_part32 (F := Ideal)) (n := 70) (by decide))) rfl rfl rfl (by decide) (by decide) (a := Cert.ReferenceIdeal.main_v1616) (b := Cert.ReferenceIdeal.main_cst_348) (y := Cert.ReferenceIdeal.main_v1617) (f := open Cert.ReferenceIdeal Cert.ReferenceIdeal.Gen in (fun x v => Host.reduce (FloatOps.maximumf (F := Ideal)) x v reducesTo_S2048x2048_S2048_d1 h_S_)) (ha := ⟨by decide, rfl⟩) (hb := ⟨by decide, rfl⟩) (hy := ⟨by decide, rfl⟩)
  rw [hk, hr, ← c_main_v447__main_v1616 hag hel, ← c_main_cst_88__main_cst_348 hag hel]

theorem c_main_cst_89__main_cst_349 : StableHlo.after Cert.KernelIdeal.Hand.KOps (Cert.KernelIdeal.Hand.Wl (F := Ideal) m ρ c) (Proc.devRef .tc Cert.KernelIdeal.main_cst_89) = StableHlo.after (Cert.ReferenceIdeal.Hand.ops (F := Ideal)) (StableHlo.launchContents m' c) (Proc.devRef .tc Cert.ReferenceIdeal.main_cst_349) := by
  have hk := StableHlo.Ascending.eq_nullary Cert.KernelIdeal.Hand.KOps_asc (Cert.KernelIdeal.Hand.Wl m ρ c) (Cert.KernelIdeal.Hand.mem_KOps_st7 (Cert.KernelIdeal.Hand.mem_st_7_34 (List.getElem_mem (l := Cert.KernelIdeal.GenP.hostOps7_34 (F := Ideal)) (n := 2) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part32 (List.getElem_mem (l := Cert.ReferenceIdeal.Hand.ops_part32 (F := Ideal)) (n := 71) (by decide))) rfl (hy := ⟨by decide, rfl⟩)
  rw [hk, hr]

theorem c_main_v449__main_v1618 : StableHlo.after Cert.KernelIdeal.Hand.KOps (Cert.KernelIdeal.Hand.Wl (F := Ideal) m ρ c) (Proc.devRef .tc Cert.KernelIdeal.main_v449) = StableHlo.after (Cert.ReferenceIdeal.Hand.ops (F := Ideal)) (StableHlo.launchContents m' c) (Proc.devRef .tc Cert.ReferenceIdeal.main_v1618) := by
  have hk := StableHlo.Ascending.eq_unary Cert.KernelIdeal.Hand.KOps_asc (Cert.KernelIdeal.Hand.Wl m ρ c) (Cert.KernelIdeal.Hand.mem_KOps_st7 (Cert.KernelIdeal.Hand.mem_st_7_34 (List.getElem_mem (l := Cert.KernelIdeal.GenP.hostOps7_34 (F := Ideal)) (n := 3) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part32 (List.getElem_mem (l := Cert.ReferenceIdeal.Hand.ops_part32 (F := Ideal)) (n := 72) (by decide))) rfl rfl (by decide) (hx := ⟨by decide, rfl⟩) (hy := ⟨by decide, rfl⟩)
  rw [hk, hr, ← c_main_cst_89__main_cst_349 hag hel]

theorem c_main_v450__main_v1619 : StableHlo.after Cert.KernelIdeal.Hand.KOps (Cert.KernelIdeal.Hand.Wl (F := Ideal) m ρ c) (Proc.devRef .tc Cert.KernelIdeal.main_v450) = StableHlo.after (Cert.ReferenceIdeal.Hand.ops (F := Ideal)) (StableHlo.launchContents m' c) (Proc.devRef .tc Cert.ReferenceIdeal.main_v1619) := by
  have hk := StableHlo.Ascending.eq_binary Cert.KernelIdeal.Hand.KOps_asc (Cert.KernelIdeal.Hand.Wl m ρ c) (Cert.KernelIdeal.Hand.mem_KOps_st7 (Cert.KernelIdeal.Hand.mem_st_7_34 (List.getElem_mem (l := Cert.KernelIdeal.GenP.hostOps7_34 (F := Ideal)) (n := 4) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part32 (List.getElem_mem (l := Cert.ReferenceIdeal.Hand.ops_part32 (F := Ideal)) (n := 73) (by decide))) rfl rfl rfl (by decide) (by decide) (ha := ⟨by decide, rfl⟩) (hb := ⟨by decide, rfl⟩) (hy := ⟨by decide, rfl⟩)
  rw [hk, hr, ← c_main_v449__main_v1618 hag hel, ← c_main_v448__main_v1617 hag hel]

theorem c_main_v451__main_v1620 : StableHlo.after Cert.KernelIdeal.Hand.KOps (Cert.KernelIdeal.Hand.Wl (F := Ideal) m ρ c) (Proc.devRef .tc Cert.KernelIdeal.main_v451) = StableHlo.after (Cert.ReferenceIdeal.Hand.ops (F := Ideal)) (StableHlo.launchContents m' c) (Proc.devRef .tc Cert.ReferenceIdeal.main_v1620) := by
  have hk := StableHlo.Ascending.eq_unary Cert.KernelIdeal.Hand.KOps_asc (Cert.KernelIdeal.Hand.Wl m ρ c) (Cert.KernelIdeal.Hand.mem_KOps_st7 (Cert.KernelIdeal.Hand.mem_st_7_34 (List.getElem_mem (l := Cert.KernelIdeal.GenP.hostOps7_34 (F := Ideal)) (n := 5) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part32 (List.getElem_mem (l := Cert.ReferenceIdeal.Hand.ops_part32 (F := Ideal)) (n := 74) (by decide))) rfl rfl (by decide) (hx := ⟨by decide, rfl⟩) (hy := ⟨by decide, rfl⟩)
  rw [hk, hr, ← c_main_v450__main_v1619 hag hel]

theorem c_main_v452__main_v1621 : StableHlo.after Cert.KernelIdeal.Hand.KOps (Cert.KernelIdeal.Hand.Wl (F := Ideal) m ρ c) (Proc.devRef .tc Cert.KernelIdeal.main_v452) = StableHlo.after (Cert.ReferenceIdeal.Hand.ops (F := Ideal)) (StableHlo.launchContents m' c) (Proc.devRef .tc Cert.ReferenceIdeal.main_v1621) := by
  have hk := StableHlo.Ascending.eq_unary Cert.KernelIdeal.Hand.KOps_asc (Cert.KernelIdeal.Hand.Wl m ρ c) (Cert.KernelIdeal.Hand.mem_KOps_st7 (Cert.KernelIdeal.Hand.mem_st_7_34 (List.getElem_mem (l := Cert.KernelIdeal.GenP.hostOps7_34 (F := Ideal)) (n := 6) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part32 (List.getElem_mem (l := Cert.ReferenceIdeal.Hand.ops_part32 (F := Ideal)) (n := 75) (by decide))) rfl rfl (by decide) (hx := ⟨by decide, rfl⟩) (hy := ⟨by decide, rfl⟩)
  rw [hk, hr, ← c_main_v451__main_v1620 hag hel]

theorem c_main_v453__main_v1622 : StableHlo.after Cert.KernelIdeal.Hand.KOps (Cert.KernelIdeal.Hand.Wl (F := Ideal) m ρ c) (Proc.devRef .tc Cert.KernelIdeal.main_v453) = StableHlo.after (Cert.ReferenceIdeal.Hand.ops (F := Ideal)) (StableHlo.launchContents m' c) (Proc.devRef .tc Cert.ReferenceIdeal.main_v1622) := by
  have hk := StableHlo.Ascending.eq_binary Cert.KernelIdeal.Hand.KOps_asc (Cert.KernelIdeal.Hand.Wl m ρ c) (Cert.KernelIdeal.Hand.mem_KOps_st7 (Cert.KernelIdeal.Hand.mem_st_7_34 (List.getElem_mem (l := Cert.KernelIdeal.GenP.hostOps7_34 (F := Ideal)) (n := 7) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part32 (List.getElem_mem (l := Cert.ReferenceIdeal.Hand.ops_part32 (F := Ideal)) (n := 76) (by decide))) rfl rfl rfl (by decide) (by decide) (ha := ⟨by decide, rfl⟩) (hb := ⟨by decide, rfl⟩) (hy := ⟨by decide, rfl⟩)
  rw [hk, hr, ← c_main_v447__main_v1616 hag hel, ← c_main_v452__main_v1621 hag hel]

theorem c_main_v454__main_v1623 : StableHlo.after Cert.KernelIdeal.Hand.KOps (Cert.KernelIdeal.Hand.Wl (F := Ideal) m ρ c) (Proc.devRef .tc Cert.KernelIdeal.main_v454) = StableHlo.after (Cert.ReferenceIdeal.Hand.ops (F := Ideal)) (StableHlo.launchContents m' c) (Proc.devRef .tc Cert.ReferenceIdeal.main_v1623) := by
  have hk := StableHlo.Ascending.eq_unary Cert.KernelIdeal.Hand.KOps_asc (Cert.KernelIdeal.Hand.Wl m ρ c) (Cert.KernelIdeal.Hand.mem_KOps_st7 (Cert.KernelIdeal.Hand.mem_st_7_34 (List.getElem_mem (l := Cert.KernelIdeal.GenP.hostOps7_34 (F := Ideal)) (n := 8) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part32 (List.getElem_mem (l := Cert.ReferenceIdeal.Hand.ops_part32 (F := Ideal)) (n := 77) (by decide))) rfl rfl (by decide) (hx := ⟨by decide, rfl⟩) (hy := ⟨by decide, rfl⟩)
  rw [hk, hr, ← c_main_v453__main_v1622 hag hel]

theorem c_main_cst_90__main_cst_350 : StableHlo.after Cert.KernelIdeal.Hand.KOps (Cert.KernelIdeal.Hand.Wl (F := Ideal) m ρ c) (Proc.devRef .tc Cert.KernelIdeal.main_cst_90) = StableHlo.after (Cert.ReferenceIdeal.Hand.ops (F := Ideal)) (StableHlo.launchContents m' c) (Proc.devRef .tc Cert.ReferenceIdeal.main_cst_350) := by
  have hk := StableHlo.Ascending.eq_nullary Cert.KernelIdeal.Hand.KOps_asc (Cert.KernelIdeal.Hand.Wl m ρ c) (Cert.KernelIdeal.Hand.mem_KOps_st7 (Cert.KernelIdeal.Hand.mem_st_7_34 (List.getElem_mem (l := Cert.KernelIdeal.GenP.hostOps7_34 (F := Ideal)) (n := 9) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part32 (List.getElem_mem (l := Cert.ReferenceIdeal.Hand.ops_part32 (F := Ideal)) (n := 78) (by decide))) rfl (hy := ⟨by decide, rfl⟩)
  rw [hk, hr]

theorem c_main_v455__main_v1624 : StableHlo.after Cert.KernelIdeal.Hand.KOps (Cert.KernelIdeal.Hand.Wl (F := Ideal) m ρ c) (Proc.devRef .tc Cert.KernelIdeal.main_v455) = StableHlo.after (Cert.ReferenceIdeal.Hand.ops (F := Ideal)) (StableHlo.launchContents m' c) (Proc.devRef .tc Cert.ReferenceIdeal.main_v1624) := by
  have hk := StableHlo.Ascending.eq_binary Cert.KernelIdeal.Hand.KOps_asc (Cert.KernelIdeal.Hand.Wl m ρ c) (Cert.KernelIdeal.Hand.mem_KOps_st7 (Cert.KernelIdeal.Hand.mem_st_7_34 (List.getElem_mem (l := Cert.KernelIdeal.GenP.hostOps7_34 (F := Ideal)) (n := 10) (by decide)))) rfl rfl rfl (by decide) (by decide) (a := Cert.KernelIdeal.main_v454) (b := Cert.KernelIdeal.main_cst_90) (y := Cert.KernelIdeal.main_v455) (f := open Cert.KernelIdeal Cert.KernelIdeal.Gen in (fun x v => Host.reduceAdd (F := Ideal) x v reducesTo_S2048x2048_S2048_d1 h_S_)) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part32 (List.getElem_mem (l := Cert.ReferenceIdeal.Hand.ops_part32 (F := Ideal)) (n := 79) (by decide))) rfl rfl rfl (by decide) (by decide) (a := Cert.ReferenceIdeal.main_v1623) (b := Cert.ReferenceIdeal.main_cst_350) (y := Cert.ReferenceIdeal.main_v1624) (f := open Cert.ReferenceIdeal Cert.ReferenceIdeal.Gen in (fun x v => Host.reduceAdd (F := Ideal) x v reducesTo_S2048x2048_S2048_d1 h_S_)) (ha := ⟨by decide, rfl⟩) (hb := ⟨by decide, rfl⟩) (hy := ⟨by decide, rfl⟩)
  rw [hk, hr, ← c_main_v454__main_v1623 hag hel, ← c_main_cst_90__main_cst_350 hag hel]

theorem c_main_v456__main_v1625 : StableHlo.after Cert.KernelIdeal.Hand.KOps (Cert.KernelIdeal.Hand.Wl (F := Ideal) m ρ c) (Proc.devRef .tc Cert.KernelIdeal.main_v456) = StableHlo.after (Cert.ReferenceIdeal.Hand.ops (F := Ideal)) (StableHlo.launchContents m' c) (Proc.devRef .tc Cert.ReferenceIdeal.main_v1625) := by
  have hk := StableHlo.Ascending.eq_unary Cert.KernelIdeal.Hand.KOps_asc (Cert.KernelIdeal.Hand.Wl m ρ c) (Cert.KernelIdeal.Hand.mem_KOps_st7 (Cert.KernelIdeal.Hand.mem_st_7_34 (List.getElem_mem (l := Cert.KernelIdeal.GenP.hostOps7_34 (F := Ideal)) (n := 11) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part32 (List.getElem_mem (l := Cert.ReferenceIdeal.Hand.ops_part32 (F := Ideal)) (n := 80) (by decide))) rfl rfl (by decide) (hx := ⟨by decide, rfl⟩) (hy := ⟨by decide, rfl⟩)
  rw [hk, hr, ← c_main_v455__main_v1624 hag hel]

theorem c_main_v457__main_v1626 : StableHlo.after Cert.KernelIdeal.Hand.KOps (Cert.KernelIdeal.Hand.Wl (F := Ideal) m ρ c) (Proc.devRef .tc Cert.KernelIdeal.main_v457) = StableHlo.after (Cert.ReferenceIdeal.Hand.ops (F := Ideal)) (StableHlo.launchContents m' c) (Proc.devRef .tc Cert.ReferenceIdeal.main_v1626) := by
  have hk := StableHlo.Ascending.eq_unary Cert.KernelIdeal.Hand.KOps_asc (Cert.KernelIdeal.Hand.Wl m ρ c) (Cert.KernelIdeal.Hand.mem_KOps_st7 (Cert.KernelIdeal.Hand.mem_st_7_34 (List.getElem_mem (l := Cert.KernelIdeal.GenP.hostOps7_34 (F := Ideal)) (n := 12) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part32 (List.getElem_mem (l := Cert.ReferenceIdeal.Hand.ops_part32 (F := Ideal)) (n := 81) (by decide))) rfl rfl (by decide) (hx := ⟨by decide, rfl⟩) (hy := ⟨by decide, rfl⟩)
  rw [hk, hr, ← c_main_v456__main_v1625 hag hel]

theorem c_main_v458__main_v1627 : StableHlo.after Cert.KernelIdeal.Hand.KOps (Cert.KernelIdeal.Hand.Wl (F := Ideal) m ρ c) (Proc.devRef .tc Cert.KernelIdeal.main_v458) = StableHlo.after (Cert.ReferenceIdeal.Hand.ops (F := Ideal)) (StableHlo.launchContents m' c) (Proc.devRef .tc Cert.ReferenceIdeal.main_v1627) := by
  have hk := StableHlo.Ascending.eq_binary Cert.KernelIdeal.Hand.KOps_asc (Cert.KernelIdeal.Hand.Wl m ρ c) (Cert.KernelIdeal.Hand.mem_KOps_st7 (Cert.KernelIdeal.Hand.mem_st_7_34 (List.getElem_mem (l := Cert.KernelIdeal.GenP.hostOps7_34 (F := Ideal)) (n := 13) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part33 (List.getElem_mem (l := Cert.ReferenceIdeal.Hand.ops_part33 (F := Ideal)) (n := 0) (by decide))) rfl rfl rfl (by decide) (by decide) (ha := ⟨by decide, rfl⟩) (hb := ⟨by decide, rfl⟩) (hy := ⟨by decide, rfl⟩)
  rw [hk, hr, ← c_main_v454__main_v1623 hag hel, ← c_main_v457__main_v1626 hag hel]

theorem c_main_v459__main_v1628 : StableHlo.after Cert.KernelIdeal.Hand.KOps (Cert.KernelIdeal.Hand.Wl (F := Ideal) m ρ c) (Proc.devRef .tc Cert.KernelIdeal.main_v459) = StableHlo.after (Cert.ReferenceIdeal.Hand.ops (F := Ideal)) (StableHlo.launchContents m' c) (Proc.devRef .tc Cert.ReferenceIdeal.main_v1628) := by
  have hk := StableHlo.Ascending.eq_unary Cert.KernelIdeal.Hand.KOps_asc (Cert.KernelIdeal.Hand.Wl m ρ c) (Cert.KernelIdeal.Hand.mem_KOps_st7 (Cert.KernelIdeal.Hand.mem_st_7_34 (List.getElem_mem (l := Cert.KernelIdeal.GenP.hostOps7_34 (F := Ideal)) (n := 14) (by decide)))) rfl rfl (by decide) (x := Cert.KernelIdeal.main_v458) (y := Cert.KernelIdeal.main_v459) (f := open Cert.KernelIdeal Cert.KernelIdeal.Gen in (transpose S2048x2048 [1, 0] · transposes_S2048x2048_S2048x2048_1_0)) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part33 (List.getElem_mem (l := Cert.ReferenceIdeal.Hand.ops_part33 (F := Ideal)) (n := 1) (by decide))) rfl rfl (by decide) (x := Cert.ReferenceIdeal.main_v1627) (y := Cert.ReferenceIdeal.main_v1628) (f := open Cert.ReferenceIdeal Cert.ReferenceIdeal.Gen in (transpose S2048x2048 [1, 0] · transposes_S2048x2048_S2048x2048_1_0)) (hx := ⟨by decide, rfl⟩) (hy := ⟨by decide, rfl⟩)
  rw [hk, hr, ← c_main_v458__main_v1627 hag hel]

theorem c_main_v460__main_v1629 : StableHlo.after Cert.KernelIdeal.Hand.KOps (Cert.KernelIdeal.Hand.Wl (F := Ideal) m ρ c) (Proc.devRef .tc Cert.KernelIdeal.main_v460) = StableHlo.after (Cert.ReferenceIdeal.Hand.ops (F := Ideal)) (StableHlo.launchContents m' c) (Proc.devRef .tc Cert.ReferenceIdeal.main_v1629) := by
  have hk := StableHlo.Ascending.eq_binary Cert.KernelIdeal.Hand.KOps_asc (Cert.KernelIdeal.Hand.Wl m ρ c) (Cert.KernelIdeal.Hand.mem_KOps_st7 (Cert.KernelIdeal.Hand.mem_st_7_34 (List.getElem_mem (l := Cert.KernelIdeal.GenP.hostOps7_34 (F := Ideal)) (n := 15) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part33 (List.getElem_mem (l := Cert.ReferenceIdeal.Hand.ops_part33 (F := Ideal)) (n := 2) (by decide))) rfl rfl rfl (by decide) (by decide) (ha := ⟨by decide, rfl⟩) (hb := ⟨by decide, rfl⟩) (hy := ⟨by decide, rfl⟩)
  rw [hk, hr, ← c_main_v459__main_v1628 hag hel, ← c_main_v420__main_v1588 hag hel]
  rfl

theorem c_main_call18_cst__main_call76_cst : StableHlo.after Cert.KernelIdeal.Hand.KOps (Cert.KernelIdeal.Hand.Wl (F := Ideal) m ρ c) (Proc.devRef .tc Cert.KernelIdeal.main_call18_cst) = StableHlo.after (Cert.ReferenceIdeal.Hand.ops (F := Ideal)) (StableHlo.launchContents m' c) (Proc.devRef .tc Cert.ReferenceIdeal.main_call76_cst) := by
  have hk := StableHlo.Ascending.eq_nullary Cert.KernelIdeal.Hand.KOps_asc (Cert.KernelIdeal.Hand.Wl m ρ c) (Cert.KernelIdeal.Hand.mem_KOps_st7 (Cert.KernelIdeal.Hand.mem_st_7_35 (List.getElem_mem (l := Cert.KernelIdeal.GenP.hostOps7_35 (F := Ideal)) (n := 0) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part33 (List.getElem_mem (l := Cert.ReferenceIdeal.Hand.ops_part33 (F := Ideal)) (n := 3) (by decide))) rfl (hy := ⟨by decide, rfl⟩)
  rw [hk, hr]

theorem c_main_call18_v0__main_call76_v0 : StableHlo.after Cert.KernelIdeal.Hand.KOps (Cert.KernelIdeal.Hand.Wl (F := Ideal) m ρ c) (Proc.devRef .tc Cert.KernelIdeal.main_call18_v0) = StableHlo.after (Cert.ReferenceIdeal.Hand.ops (F := Ideal)) (StableHlo.launchContents m' c) (Proc.devRef .tc Cert.ReferenceIdeal.main_call76_v0) := by
  have hk := StableHlo.Ascending.eq_unary Cert.KernelIdeal.Hand.KOps_asc (Cert.KernelIdeal.Hand.Wl m ρ c) (Cert.KernelIdeal.Hand.mem_KOps_st7 (Cert.KernelIdeal.Hand.mem_st_7_35 (List.getElem_mem (l := Cert.KernelIdeal.GenP.hostOps7_35 (F := Ideal)) (n := 1) (by decide)))) rfl rfl (by decide) (x := Cert.KernelIdeal.main_call18_cst) (y := Cert.KernelIdeal.main_call18_v0) (f := open Cert.KernelIdeal Cert.KernelIdeal.Gen in (broadcastInDim S2048x8 ![] bcast_S_S2048x8)) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part33 (List.getElem_mem (l := Cert.ReferenceIdeal.Hand.ops_part33 (F := Ideal)) (n := 4) (by decide))) rfl rfl (by decide) (x := Cert.ReferenceIdeal.main_call76_cst) (y := Cert.ReferenceIdeal.main_call76_v0) (f := open Cert.ReferenceIdeal Cert.ReferenceIdeal.Gen in (broadcastInDim S2048x8 ![] bcast_S_S2048x8)) (hx := ⟨by decide, rfl⟩) (hy := ⟨by decide, rfl⟩)
  rw [hk, hr, ← c_main_call18_cst__main_call76_cst hag hel]

theorem c_main_call18_v1__main_call76_v1 : StableHlo.after Cert.KernelIdeal.Hand.KOps (Cert.KernelIdeal.Hand.Wl (F := Ideal) m ρ c) (Proc.devRef .tc Cert.KernelIdeal.main_call18_v1) = StableHlo.after (Cert.ReferenceIdeal.Hand.ops (F := Ideal)) (StableHlo.launchContents m' c) (Proc.devRef .tc Cert.ReferenceIdeal.main_call76_v1) := by
  have hk := StableHlo.Ascending.eq_binary Cert.KernelIdeal.Hand.KOps_asc (Cert.KernelIdeal.Hand.Wl m ρ c) (Cert.KernelIdeal.Hand.mem_KOps_st7 (Cert.KernelIdeal.Hand.mem_st_7_35 (List.getElem_mem (l := Cert.KernelIdeal.GenP.hostOps7_35 (F := Ideal)) (n := 2) (by decide)))) rfl rfl rfl (by decide) (by decide) (a := Cert.KernelIdeal.main_v460) (b := Cert.KernelIdeal.main_call18_v0) (y := Cert.KernelIdeal.main_call18_v1) (f := open Cert.KernelIdeal Cert.KernelIdeal.Gen in (cmpf (F := Ideal) .ogt)) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part33 (List.getElem_mem (l := Cert.ReferenceIdeal.Hand.ops_part33 (F := Ideal)) (n := 5) (by decide))) rfl rfl rfl (by decide) (by decide) (a := Cert.ReferenceIdeal.main_v1629) (b := Cert.ReferenceIdeal.main_call76_v0) (y := Cert.ReferenceIdeal.main_call76_v1) (f := open Cert.ReferenceIdeal Cert.ReferenceIdeal.Gen in (cmpf (F := Ideal) .ogt)) (ha := ⟨by decide, rfl⟩) (hb := ⟨by decide, rfl⟩) (hy := ⟨by decide, rfl⟩)
  rw [hk, hr, ← c_main_v460__main_v1629 hag hel, ← c_main_call18_v0__main_call76_v0 hag hel]

theorem c_main_call18_cst_0__main_call76_cst_0 : StableHlo.after Cert.KernelIdeal.Hand.KOps (Cert.KernelIdeal.Hand.Wl (F := Ideal) m ρ c) (Proc.devRef .tc Cert.KernelIdeal.main_call18_cst_0) = StableHlo.after (Cert.ReferenceIdeal.Hand.ops (F := Ideal)) (StableHlo.launchContents m' c) (Proc.devRef .tc Cert.ReferenceIdeal.main_call76_cst_0) := by
  have hk := StableHlo.Ascending.eq_nullary Cert.KernelIdeal.Hand.KOps_asc (Cert.KernelIdeal.Hand.Wl m ρ c) (Cert.KernelIdeal.Hand.mem_KOps_st7 (Cert.KernelIdeal.Hand.mem_st_7_35 (List.getElem_mem (l := Cert.KernelIdeal.GenP.hostOps7_35 (F := Ideal)) (n := 3) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part33 (List.getElem_mem (l := Cert.ReferenceIdeal.Hand.ops_part33 (F := Ideal)) (n := 6) (by decide))) rfl (hy := ⟨by decide, rfl⟩)
  rw [hk, hr]

theorem c_main_call18_v2__main_call76_v2 : StableHlo.after Cert.KernelIdeal.Hand.KOps (Cert.KernelIdeal.Hand.Wl (F := Ideal) m ρ c) (Proc.devRef .tc Cert.KernelIdeal.main_call18_v2) = StableHlo.after (Cert.ReferenceIdeal.Hand.ops (F := Ideal)) (StableHlo.launchContents m' c) (Proc.devRef .tc Cert.ReferenceIdeal.main_call76_v2) := by
  have hk := StableHlo.Ascending.eq_unary Cert.KernelIdeal.Hand.KOps_asc (Cert.KernelIdeal.Hand.Wl m ρ c) (Cert.KernelIdeal.Hand.mem_KOps_st7 (Cert.KernelIdeal.Hand.mem_st_7_35 (List.getElem_mem (l := Cert.KernelIdeal.GenP.hostOps7_35 (F := Ideal)) (n := 4) (by decide)))) rfl rfl (by decide) (x := Cert.KernelIdeal.main_call18_cst_0) (y := Cert.KernelIdeal.main_call18_v2) (f := open Cert.KernelIdeal Cert.KernelIdeal.Gen in (broadcastInDim S2048x8 ![] bcast_S_S2048x8)) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part33 (List.getElem_mem (l := Cert.ReferenceIdeal.Hand.ops_part33 (F := Ideal)) (n := 7) (by decide))) rfl rfl (by decide) (x := Cert.ReferenceIdeal.main_call76_cst_0) (y := Cert.ReferenceIdeal.main_call76_v2) (f := open Cert.ReferenceIdeal Cert.ReferenceIdeal.Gen in (broadcastInDim S2048x8 ![] bcast_S_S2048x8)) (hx := ⟨by decide, rfl⟩) (hy := ⟨by decide, rfl⟩)
  rw [hk, hr, ← c_main_call18_cst_0__main_call76_cst_0 hag hel]

theorem c_main_call18_v3__main_call76_v3 : StableHlo.after Cert.KernelIdeal.Hand.KOps (Cert.KernelIdeal.Hand.Wl (F := Ideal) m ρ c) (Proc.devRef .tc Cert.KernelIdeal.main_call18_v3) = StableHlo.after (Cert.ReferenceIdeal.Hand.ops (F := Ideal)) (StableHlo.launchContents m' c) (Proc.devRef .tc Cert.ReferenceIdeal.main_call76_v3) := by
  have hk := StableHlo.Ascending.eq_binary Cert.KernelIdeal.Hand.KOps_asc (Cert.KernelIdeal.Hand.Wl m ρ c) (Cert.KernelIdeal.Hand.mem_KOps_st7 (Cert.KernelIdeal.Hand.mem_st_7_35 (List.getElem_mem (l := Cert.KernelIdeal.GenP.hostOps7_35 (F := Ideal)) (n := 5) (by decide)))) rfl rfl rfl (by decide) (by decide) (a := Cert.KernelIdeal.main_v460) (b := Cert.KernelIdeal.main_call18_v2) (y := Cert.KernelIdeal.main_call18_v3) (f := open Cert.KernelIdeal Cert.KernelIdeal.Gen in (cmpf (F := Ideal) .ogt)) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part33 (List.getElem_mem (l := Cert.ReferenceIdeal.Hand.ops_part33 (F := Ideal)) (n := 8) (by decide))) rfl rfl rfl (by decide) (by decide) (a := Cert.ReferenceIdeal.main_v1629) (b := Cert.ReferenceIdeal.main_call76_v2) (y := Cert.ReferenceIdeal.main_call76_v3) (f := open Cert.ReferenceIdeal Cert.ReferenceIdeal.Gen in (cmpf (F := Ideal) .ogt)) (ha := ⟨by decide, rfl⟩) (hb := ⟨by decide, rfl⟩) (hy := ⟨by decide, rfl⟩)
  rw [hk, hr, ← c_main_v460__main_v1629 hag hel, ← c_main_call18_v2__main_call76_v2 hag hel]

theorem c_main_call18_cst_1__main_call76_cst_1 : StableHlo.after Cert.KernelIdeal.Hand.KOps (Cert.KernelIdeal.Hand.Wl (F := Ideal) m ρ c) (Proc.devRef .tc Cert.KernelIdeal.main_call18_cst_1) = StableHlo.after (Cert.ReferenceIdeal.Hand.ops (F := Ideal)) (StableHlo.launchContents m' c) (Proc.devRef .tc Cert.ReferenceIdeal.main_call76_cst_1) := by
  have hk := StableHlo.Ascending.eq_nullary Cert.KernelIdeal.Hand.KOps_asc (Cert.KernelIdeal.Hand.Wl m ρ c) (Cert.KernelIdeal.Hand.mem_KOps_st7 (Cert.KernelIdeal.Hand.mem_st_7_35 (List.getElem_mem (l := Cert.KernelIdeal.GenP.hostOps7_35 (F := Ideal)) (n := 6) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part33 (List.getElem_mem (l := Cert.ReferenceIdeal.Hand.ops_part33 (F := Ideal)) (n := 9) (by decide))) rfl (hy := ⟨by decide, rfl⟩)
  rw [hk, hr]

theorem c_main_call18_call0_v0__main_call76_call0_v0 : StableHlo.after Cert.KernelIdeal.Hand.KOps (Cert.KernelIdeal.Hand.Wl (F := Ideal) m ρ c) (Proc.devRef .tc Cert.KernelIdeal.main_call18_call0_v0) = StableHlo.after (Cert.ReferenceIdeal.Hand.ops (F := Ideal)) (StableHlo.launchContents m' c) (Proc.devRef .tc Cert.ReferenceIdeal.main_call76_call0_v0) := by
  have hk := StableHlo.Ascending.eq_unary Cert.KernelIdeal.Hand.KOps_asc (Cert.KernelIdeal.Hand.Wl m ρ c) (Cert.KernelIdeal.Hand.mem_KOps_st7 (Cert.KernelIdeal.Hand.mem_st_7_35 (List.getElem_mem (l := Cert.KernelIdeal.GenP.hostOps7_35 (F := Ideal)) (n := 7) (by decide)))) rfl rfl (by decide) (x := Cert.KernelIdeal.main_call18_cst_1) (y := Cert.KernelIdeal.main_call18_call0_v0) (f := open Cert.KernelIdeal Cert.KernelIdeal.Gen in id) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part33 (List.getElem_mem (l := Cert.ReferenceIdeal.Hand.ops_part33 (F := Ideal)) (n := 10) (by decide))) rfl rfl (by decide) (x := Cert.ReferenceIdeal.main_call76_cst_1) (y := Cert.ReferenceIdeal.main_call76_call0_v0) (f := open Cert.ReferenceIdeal Cert.ReferenceIdeal.Gen in id) (hx := ⟨by decide, rfl⟩) (hy := ⟨by decide, rfl⟩)
  rw [hk, hr, ← c_main_call18_cst_1__main_call76_cst_1 hag hel]

theorem c_main_call18_call0_v1__main_call76_call0_v1 : StableHlo.after Cert.KernelIdeal.Hand.KOps (Cert.KernelIdeal.Hand.Wl (F := Ideal) m ρ c) (Proc.devRef .tc Cert.KernelIdeal.main_call18_call0_v1) = StableHlo.after (Cert.ReferenceIdeal.Hand.ops (F := Ideal)) (StableHlo.launchContents m' c) (Proc.devRef .tc Cert.ReferenceIdeal.main_call76_call0_v1) := by
  have hk := StableHlo.Ascending.eq_unary Cert.KernelIdeal.Hand.KOps_asc (Cert.KernelIdeal.Hand.Wl m ρ c) (Cert.KernelIdeal.Hand.mem_KOps_st7 (Cert.KernelIdeal.Hand.mem_st_7_35 (List.getElem_mem (l := Cert.KernelIdeal.GenP.hostOps7_35 (F := Ideal)) (n := 8) (by decide)))) rfl rfl (by decide) (x := Cert.KernelIdeal.main_call18_call0_v0) (y := Cert.KernelIdeal.main_call18_call0_v1) (f := open Cert.KernelIdeal Cert.KernelIdeal.Gen in (broadcastInDim S2048x8 ![] bcast_S_S2048x8)) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part33 (List.getElem_mem (l := Cert.ReferenceIdeal.Hand.ops_part33 (F := Ideal)) (n := 11) (by decide))) rfl rfl (by decide) (x := Cert.ReferenceIdeal.main_call76_call0_v0) (y := Cert.ReferenceIdeal.main_call76_call0_v1) (f := open Cert.ReferenceIdeal Cert.ReferenceIdeal.Gen in (broadcastInDim S2048x8 ![] bcast_S_S2048x8)) (hx := ⟨by decide, rfl⟩) (hy := ⟨by decide, rfl⟩)
  rw [hk, hr, ← c_main_call18_call0_v0__main_call76_call0_v0 hag hel]

theorem c_main_call18_v4__main_call76_v4 : StableHlo.after Cert.KernelIdeal.Hand.KOps (Cert.KernelIdeal.Hand.Wl (F := Ideal) m ρ c) (Proc.devRef .tc Cert.KernelIdeal.main_call18_v4) = StableHlo.after (Cert.ReferenceIdeal.Hand.ops (F := Ideal)) (StableHlo.launchContents m' c) (Proc.devRef .tc Cert.ReferenceIdeal.main_call76_v4) := by
  have hk := StableHlo.Ascending.eq_ternary Cert.KernelIdeal.Hand.KOps_asc (Cert.KernelIdeal.Hand.Wl m ρ c) (Cert.KernelIdeal.Hand.mem_KOps_st7 (Cert.KernelIdeal.Hand.mem_st_7_35 (List.getElem_mem (l := Cert.KernelIdeal.GenP.hostOps7_35 (F := Ideal)) (n := 9) (by decide)))) rfl rfl rfl rfl (by decide) (by decide) (by decide) (c := Cert.KernelIdeal.main_call18_v3) (a := Cert.KernelIdeal.main_call18_call0_v1) (b := Cert.KernelIdeal.main_v460) (y := Cert.KernelIdeal.main_call18_v4) (f := (select : (⟨Cert.KernelIdeal.S2048x8, .i1⟩ : BufTy).Contents (Elt Ideal) → (⟨Cert.KernelIdeal.S2048x8, .f32⟩ : BufTy).Contents (Elt Ideal) → (⟨Cert.KernelIdeal.S2048x8, .f32⟩ : BufTy).Contents (Elt Ideal) → (⟨Cert.KernelIdeal.S2048x8, .f32⟩ : BufTy).Contents (Elt Ideal))) (hc := ⟨by decide, rfl⟩) (ha := ⟨by decide, rfl⟩) (hb := ⟨by decide, rfl⟩) (hy := ⟨by decide, rfl⟩)
  have hr := StableHlo.Ascending.eq_ternary (Cert.ReferenceIdeal.Hand.ops_asc (F := Ideal)) (StableHlo.launchContents m' c) (Cert.ReferenceIdeal.Hand.mem_ops_part33 (List.getElem_mem (l := Cert.ReferenceIdeal.Hand.ops_part33 (F := Ideal)) (n := 12) (by decide))) rfl rfl rfl rfl (by decide) (by decide) (by decide) (c := Cert.ReferenceIdeal.main_call76_v3) (a := Cert.ReferenceIdeal.main_call76_call0_v1) (b := Cert.ReferenceIdeal.main_v1629) (y := Cert.ReferenceIdeal.main_call76_v4) (f := (select : (⟨Cert.ReferenceIdeal.S2048x8, .i1⟩ : BufTy).Contents (Elt Ideal) → (⟨Cert.ReferenceIdeal.S2048x8, .f32⟩ : BufTy).Contents (Elt Ideal) → (⟨Cert.ReferenceIdeal.S2048x8, .f32⟩ : BufTy).Contents (Elt Ideal) → (⟨Cert.ReferenceIdeal.S2048x8, .f32⟩ : BufTy).Contents (Elt Ideal))) (hc := ⟨by decide, rfl⟩) (ha := ⟨by decide, rfl⟩) (hb := ⟨by decide, rfl⟩) (hy := ⟨by decide, rfl⟩)
  rw [hk, hr, ← c_main_call18_v3__main_call76_v3 hag hel, ← c_main_call18_call0_v1__main_call76_call0_v1 hag hel, ← c_main_v460__main_v1629 hag hel]

theorem c_main_call18_v5__main_call76_v5 : StableHlo.after Cert.KernelIdeal.Hand.KOps (Cert.KernelIdeal.Hand.Wl (F := Ideal) m ρ c) (Proc.devRef .tc Cert.KernelIdeal.main_call18_v5) = StableHlo.after (Cert.ReferenceIdeal.Hand.ops (F := Ideal)) (StableHlo.launchContents m' c) (Proc.devRef .tc Cert.ReferenceIdeal.main_call76_v5) := by
  have hk := StableHlo.Ascending.eq_unary Cert.KernelIdeal.Hand.KOps_asc (Cert.KernelIdeal.Hand.Wl m ρ c) (Cert.KernelIdeal.Hand.mem_KOps_st7 (Cert.KernelIdeal.Hand.mem_st_7_35 (List.getElem_mem (l := Cert.KernelIdeal.GenP.hostOps7_35 (F := Ideal)) (n := 10) (by decide)))) rfl rfl (by decide) (x := Cert.KernelIdeal.main_call18_v4) (y := Cert.KernelIdeal.main_call18_v5) (f := open Cert.KernelIdeal Cert.KernelIdeal.Gen in Host.expm1 (F := Ideal)) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part33 (List.getElem_mem (l := Cert.ReferenceIdeal.Hand.ops_part33 (F := Ideal)) (n := 13) (by decide))) rfl rfl (by decide) (x := Cert.ReferenceIdeal.main_call76_v4) (y := Cert.ReferenceIdeal.main_call76_v5) (f := open Cert.ReferenceIdeal Cert.ReferenceIdeal.Gen in Host.expm1 (F := Ideal)) (hx := ⟨by decide, rfl⟩) (hy := ⟨by decide, rfl⟩)
  rw [hk, hr, ← c_main_call18_v4__main_call76_v4 hag hel]

theorem c_main_call18_cst_2__main_call76_cst_2 : StableHlo.after Cert.KernelIdeal.Hand.KOps (Cert.KernelIdeal.Hand.Wl (F := Ideal) m ρ c) (Proc.devRef .tc Cert.KernelIdeal.main_call18_cst_2) = StableHlo.after (Cert.ReferenceIdeal.Hand.ops (F := Ideal)) (StableHlo.launchContents m' c) (Proc.devRef .tc Cert.ReferenceIdeal.main_call76_cst_2) := by
  have hk := StableHlo.Ascending.eq_nullary Cert.KernelIdeal.Hand.KOps_asc (Cert.KernelIdeal.Hand.Wl m ρ c) (Cert.KernelIdeal.Hand.mem_KOps_st7 (Cert.KernelIdeal.Hand.mem_st_7_35 (List.getElem_mem (l := Cert.KernelIdeal.GenP.hostOps7_35 (F := Ideal)) (n := 11) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part33 (List.getElem_mem (l := Cert.ReferenceIdeal.Hand.ops_part33 (F := Ideal)) (n := 14) (by decide))) rfl (hy := ⟨by decide, rfl⟩)
  rw [hk, hr]

theorem c_main_call18_v6__main_call76_v6 : StableHlo.after Cert.KernelIdeal.Hand.KOps (Cert.KernelIdeal.Hand.Wl (F := Ideal) m ρ c) (Proc.devRef .tc Cert.KernelIdeal.main_call18_v6) = StableHlo.after (Cert.ReferenceIdeal.Hand.ops (F := Ideal)) (StableHlo.launchContents m' c) (Proc.devRef .tc Cert.ReferenceIdeal.main_call76_v6) := by
  have hk := StableHlo.Ascending.eq_unary Cert.KernelIdeal.Hand.KOps_asc (Cert.KernelIdeal.Hand.Wl m ρ c) (Cert.KernelIdeal.Hand.mem_KOps_st7 (Cert.KernelIdeal.Hand.mem_st_7_35 (List.getElem_mem (l := Cert.KernelIdeal.GenP.hostOps7_35 (F := Ideal)) (n := 12) (by decide)))) rfl rfl (by decide) (x := Cert.KernelIdeal.main_call18_cst_2) (y := Cert.KernelIdeal.main_call18_v6) (f := open Cert.KernelIdeal Cert.KernelIdeal.Gen in (broadcastInDim S2048x8 ![] bcast_S_S2048x8)) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part33 (List.getElem_mem (l := Cert.ReferenceIdeal.Hand.ops_part33 (F := Ideal)) (n := 15) (by decide))) rfl rfl (by decide) (x := Cert.ReferenceIdeal.main_call76_cst_2) (y := Cert.ReferenceIdeal.main_call76_v6) (f := open Cert.ReferenceIdeal Cert.ReferenceIdeal.Gen in (broadcastInDim S2048x8 ![] bcast_S_S2048x8)) (hx := ⟨by decide, rfl⟩) (hy := ⟨by decide, rfl⟩)
  rw [hk, hr, ← c_main_call18_cst_2__main_call76_cst_2 hag hel]

theorem c_main_call18_v7__main_call76_v7 : StableHlo.after Cert.KernelIdeal.Hand.KOps (Cert.KernelIdeal.Hand.Wl (F := Ideal) m ρ c) (Proc.devRef .tc Cert.KernelIdeal.main_call18_v7) = StableHlo.after (Cert.ReferenceIdeal.Hand.ops (F := Ideal)) (StableHlo.launchContents m' c) (Proc.devRef .tc Cert.ReferenceIdeal.main_call76_v7) := by
  have hk := StableHlo.Ascending.eq_binary Cert.KernelIdeal.Hand.KOps_asc (Cert.KernelIdeal.Hand.Wl m ρ c) (Cert.KernelIdeal.Hand.mem_KOps_st7 (Cert.KernelIdeal.Hand.mem_st_7_35 (List.getElem_mem (l := Cert.KernelIdeal.GenP.hostOps7_35 (F := Ideal)) (n := 13) (by decide)))) rfl rfl rfl (by decide) (by decide) (a := Cert.KernelIdeal.main_call18_v6) (b := Cert.KernelIdeal.main_call18_v5) (y := Cert.KernelIdeal.main_call18_v7) (f := open Cert.KernelIdeal Cert.KernelIdeal.Gen in mulf (F := Ideal)) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part33 (List.getElem_mem (l := Cert.ReferenceIdeal.Hand.ops_part33 (F := Ideal)) (n := 16) (by decide))) rfl rfl rfl (by decide) (by decide) (a := Cert.ReferenceIdeal.main_call76_v6) (b := Cert.ReferenceIdeal.main_call76_v5) (y := Cert.ReferenceIdeal.main_call76_v7) (f := open Cert.ReferenceIdeal Cert.ReferenceIdeal.Gen in mulf (F := Ideal)) (ha := ⟨by decide, rfl⟩) (hb := ⟨by decide, rfl⟩) (hy := ⟨by decide, rfl⟩)
  rw [hk, hr, ← c_main_call18_v6__main_call76_v6 hag hel, ← c_main_call18_v5__main_call76_v5 hag hel]

theorem c_main_v461__main_v1630 : StableHlo.after Cert.KernelIdeal.Hand.KOps (Cert.KernelIdeal.Hand.Wl (F := Ideal) m ρ c) (Proc.devRef .tc Cert.KernelIdeal.main_v461) = StableHlo.after (Cert.ReferenceIdeal.Hand.ops (F := Ideal)) (StableHlo.launchContents m' c) (Proc.devRef .tc Cert.ReferenceIdeal.main_v1630) := by
  have hk := StableHlo.Ascending.eq_ternary Cert.KernelIdeal.Hand.KOps_asc (Cert.KernelIdeal.Hand.Wl m ρ c) (Cert.KernelIdeal.Hand.mem_KOps_st7 (Cert.KernelIdeal.Hand.mem_st_7_35 (List.getElem_mem (l := Cert.KernelIdeal.GenP.hostOps7_35 (F := Ideal)) (n := 14) (by decide)))) rfl rfl rfl rfl (by decide) (by decide) (by decide) (c := Cert.KernelIdeal.main_call18_v1) (a := Cert.KernelIdeal.main_v460) (b := Cert.KernelIdeal.main_call18_v7) (y := Cert.KernelIdeal.main_v461) (f := (select : (⟨Cert.KernelIdeal.S2048x8, .i1⟩ : BufTy).Contents (Elt Ideal) → (⟨Cert.KernelIdeal.S2048x8, .f32⟩ : BufTy).Contents (Elt Ideal) → (⟨Cert.KernelIdeal.S2048x8, .f32⟩ : BufTy).Contents (Elt Ideal) → (⟨Cert.KernelIdeal.S2048x8, .f32⟩ : BufTy).Contents (Elt Ideal))) (hc := ⟨by decide, rfl⟩) (ha := ⟨by decide, rfl⟩) (hb := ⟨by decide, rfl⟩) (hy := ⟨by decide, rfl⟩)
  have hr := StableHlo.Ascending.eq_ternary (Cert.ReferenceIdeal.Hand.ops_asc (F := Ideal)) (StableHlo.launchContents m' c) (Cert.ReferenceIdeal.Hand.mem_ops_part33 (List.getElem_mem (l := Cert.ReferenceIdeal.Hand.ops_part33 (F := Ideal)) (n := 17) (by decide))) rfl rfl rfl rfl (by decide) (by decide) (by decide) (c := Cert.ReferenceIdeal.main_call76_v1) (a := Cert.ReferenceIdeal.main_v1629) (b := Cert.ReferenceIdeal.main_call76_v7) (y := Cert.ReferenceIdeal.main_v1630) (f := (select : (⟨Cert.ReferenceIdeal.S2048x8, .i1⟩ : BufTy).Contents (Elt Ideal) → (⟨Cert.ReferenceIdeal.S2048x8, .f32⟩ : BufTy).Contents (Elt Ideal) → (⟨Cert.ReferenceIdeal.S2048x8, .f32⟩ : BufTy).Contents (Elt Ideal) → (⟨Cert.ReferenceIdeal.S2048x8, .f32⟩ : BufTy).Contents (Elt Ideal))) (hc := ⟨by decide, rfl⟩) (ha := ⟨by decide, rfl⟩) (hb := ⟨by decide, rfl⟩) (hy := ⟨by decide, rfl⟩)
  rw [hk, hr, ← c_main_call18_v1__main_call76_v1 hag hel, ← c_main_v460__main_v1629 hag hel, ← c_main_call18_v7__main_call76_v7 hag hel]

theorem c_main_v462__main_v1631 : StableHlo.after Cert.KernelIdeal.Hand.KOps (Cert.KernelIdeal.Hand.Wl (F := Ideal) m ρ c) (Proc.devRef .tc Cert.KernelIdeal.main_v462) = StableHlo.after (Cert.ReferenceIdeal.Hand.ops (F := Ideal)) (StableHlo.launchContents m' c) (Proc.devRef .tc Cert.ReferenceIdeal.main_v1631) := by
  have hk := StableHlo.Ascending.eq_unary Cert.KernelIdeal.Hand.KOps_asc (Cert.KernelIdeal.Hand.Wl m ρ c) (Cert.KernelIdeal.Hand.mem_KOps_st7 (Cert.KernelIdeal.Hand.mem_st_7_36 (List.getElem_mem (l := Cert.KernelIdeal.GenP.hostOps7_36 (F := Ideal)) (n := 0) (by decide)))) rfl rfl (by decide) (x := Cert.KernelIdeal.main_v165) (y := Cert.KernelIdeal.main_v462) (f := open Cert.KernelIdeal Cert.KernelIdeal.Gen in (extractStridedSlice S16x1 ![0, 3] · slices_S16x8_S16x1_0_3)) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part33 (List.getElem_mem (l := Cert.ReferenceIdeal.Hand.ops_part33 (F := Ideal)) (n := 18) (by decide))) rfl rfl (by decide) (x := Cert.ReferenceIdeal.main_v1258) (y := Cert.ReferenceIdeal.main_v1631) (f := open Cert.ReferenceIdeal Cert.ReferenceIdeal.Gen in (extractStridedSlice S16x1 ![0, 3] · slices_S16x8_S16x1_0_3)) (hx := ⟨by decide, rfl⟩) (hy := ⟨by decide, rfl⟩)
  rw [hk, hr, ← c_main_v165__main_v1258 hag hel]

theorem c_main_v463__main_v1632 : StableHlo.after Cert.KernelIdeal.Hand.KOps (Cert.KernelIdeal.Hand.Wl (F := Ideal) m ρ c) (Proc.devRef .tc Cert.KernelIdeal.main_v463) = StableHlo.after (Cert.ReferenceIdeal.Hand.ops (F := Ideal)) (StableHlo.launchContents m' c) (Proc.devRef .tc Cert.ReferenceIdeal.main_v1632) := by
  have hk := StableHlo.Ascending.eq_unary Cert.KernelIdeal.Hand.KOps_asc (Cert.KernelIdeal.Hand.Wl m ρ c) (Cert.KernelIdeal.Hand.mem_KOps_st7 (Cert.KernelIdeal.Hand.mem_st_7_36 (List.getElem_mem (l := Cert.KernelIdeal.GenP.hostOps7_36 (F := Ideal)) (n := 1) (by decide)))) rfl rfl (by decide) (x := Cert.KernelIdeal.main_v165) (y := Cert.KernelIdeal.main_v463) (f := open Cert.KernelIdeal Cert.KernelIdeal.Gen in (extractStridedSlice S16x1 ![0, 7] · slices_S16x8_S16x1_0_7)) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part33 (List.getElem_mem (l := Cert.ReferenceIdeal.Hand.ops_part33 (F := Ideal)) (n := 19) (by decide))) rfl rfl (by decide) (x := Cert.ReferenceIdeal.main_v1258) (y := Cert.ReferenceIdeal.main_v1632) (f := open Cert.ReferenceIdeal Cert.ReferenceIdeal.Gen in (extractStridedSlice S16x1 ![0, 7] · slices_S16x8_S16x1_0_7)) (hx := ⟨by decide, rfl⟩) (hy := ⟨by decide, rfl⟩)
  rw [hk, hr, ← c_main_v165__main_v1258 hag hel]

theorem c_main_v464__main_v1633 : StableHlo.after Cert.KernelIdeal.Hand.KOps (Cert.KernelIdeal.Hand.Wl (F := Ideal) m ρ c) (Proc.devRef .tc Cert.KernelIdeal.main_v464) = StableHlo.after (Cert.ReferenceIdeal.Hand.ops (F := Ideal)) (StableHlo.launchContents m' c) (Proc.devRef .tc Cert.ReferenceIdeal.main_v1633) := by
  have hk := StableHlo.Ascending.eq_unary Cert.KernelIdeal.Hand.KOps_asc (Cert.KernelIdeal.Hand.Wl m ρ c) (Cert.KernelIdeal.Hand.mem_KOps_st7 (Cert.KernelIdeal.Hand.mem_st_7_36 (List.getElem_mem (l := Cert.KernelIdeal.GenP.hostOps7_36 (F := Ideal)) (n := 2) (by decide)))) rfl rfl (by decide) (x := Cert.KernelIdeal.main_arg4) (y := Cert.KernelIdeal.main_v464) (f := open Cert.KernelIdeal Cert.KernelIdeal.Gen in (extractStridedSlice S1x256x8 ![3, 0, 0] · slices_S4x256x8_S1x256x8_3_0_0)) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part33 (List.getElem_mem (l := Cert.ReferenceIdeal.Hand.ops_part33 (F := Ideal)) (n := 20) (by decide))) rfl rfl (by decide) (x := Cert.ReferenceIdeal.main_arg4) (y := Cert.ReferenceIdeal.main_v1633) (f := open Cert.ReferenceIdeal Cert.ReferenceIdeal.Gen in (extractStridedSlice S1x256x8 ![3, 0, 0] · slices_S4x256x8_S1x256x8_3_0_0)) (hx := ⟨by decide, rfl⟩) (hy := ⟨by decide, rfl⟩)
  rw [hk, hr, ← c_main_arg4__main_arg4 hag hel]

theorem c_main_v465__main_v1634 : StableHlo.after Cert.KernelIdeal.Hand.KOps (Cert.KernelIdeal.Hand.Wl (F := Ideal) m ρ c) (Proc.devRef .tc Cert.KernelIdeal.main_v465) = StableHlo.after (Cert.ReferenceIdeal.Hand.ops (F := Ideal)) (StableHlo.launchContents m' c) (Proc.devRef .tc Cert.ReferenceIdeal.main_v1634) := by
  have hk := StableHlo.Ascending.eq_reshape Cert.KernelIdeal.Hand.KOps_asc (Cert.KernelIdeal.Hand.Wl m ρ c) (Cert.KernelIdeal.Hand.mem_KOps_st7 (Cert.KernelIdeal.Hand.mem_st_7_36 (List.getElem_mem (l := Cert.KernelIdeal.GenP.hostOps7_36 (F := Ideal)) (n := 3) (by decide)))) rfl rfl (by decide) (x := Cert.KernelIdeal.main_v464) (y := Cert.KernelIdeal.main_v465) (he := rfl) (hn := Cert.KernelIdeal.Gen.shapeCasts_S1x256x8_S256x8) (hx := ⟨by decide, rfl⟩) (hy := ⟨by decide, rfl⟩)
  have hr := StableHlo.Ascending.eq_reshape (Cert.ReferenceIdeal.Hand.ops_asc (F := Ideal)) (StableHlo.launchContents m' c) (Cert.ReferenceIdeal.Hand.mem_ops_part33 (List.getElem_mem (l := Cert.ReferenceIdeal.Hand.ops_part33 (F := Ideal)) (n := 21) (by decide))) rfl rfl (by decide) (x := Cert.ReferenceIdeal.main_v1633) (y := Cert.ReferenceIdeal.main_v1634) (he := rfl) (hn := Cert.ReferenceIdeal.Gen.shapeCasts_S1x256x8_S256x8) (hx := ⟨by decide, rfl⟩) (hy := ⟨by decide, rfl⟩)
  rw [hk, hr, ← c_main_v464__main_v1633 hag hel]
  rfl

theorem c_main_v466__main_v1671 : StableHlo.after Cert.KernelIdeal.Hand.KOps (Cert.KernelIdeal.Hand.Wl (F := Ideal) m ρ c) (Proc.devRef .tc Cert.KernelIdeal.main_v466) = StableHlo.after (Cert.ReferenceIdeal.Hand.ops (F := Ideal)) (StableHlo.launchContents m' c) (Proc.devRef .tc Cert.ReferenceIdeal.main_v1671) := by
  have hk := StableHlo.Ascending.eq_binary Cert.KernelIdeal.Hand.KOps_asc (Cert.KernelIdeal.Hand.Wl m ρ c) (Cert.KernelIdeal.Hand.mem_KOps_st7 (Cert.KernelIdeal.Hand.mem_st_7_36 (List.getElem_mem (l := Cert.KernelIdeal.GenP.hostOps7_36 (F := Ideal)) (n := 4) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part33 (List.getElem_mem (l := Cert.ReferenceIdeal.Hand.ops_part33 (F := Ideal)) (n := 68) (by decide))) rfl rfl rfl (by decide) (by decide) (ha := ⟨by decide, rfl⟩) (hb := ⟨by decide, rfl⟩) (hy := ⟨by decide, rfl⟩)
  rw [hk, hr, ← c_main_v45__main_v144 hag hel, ← c_main_v465__main_v1634 hag hel]
  rfl

theorem c_main_v467__main_v1672 : StableHlo.after Cert.KernelIdeal.Hand.KOps (Cert.KernelIdeal.Hand.Wl (F := Ideal) m ρ c) (Proc.devRef .tc Cert.KernelIdeal.main_v467) = StableHlo.after (Cert.ReferenceIdeal.Hand.ops (F := Ideal)) (StableHlo.launchContents m' c) (Proc.devRef .tc Cert.ReferenceIdeal.main_v1672) := by
  have hk := StableHlo.Ascending.eq_binary Cert.KernelIdeal.Hand.KOps_asc (Cert.KernelIdeal.Hand.Wl m ρ c) (Cert.KernelIdeal.Hand.mem_KOps_st7 (Cert.KernelIdeal.Hand.mem_st_7_36 (List.getElem_mem (l := Cert.KernelIdeal.GenP.hostOps7_36 (F := Ideal)) (n := 5) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part33 (List.getElem_mem (l := Cert.ReferenceIdeal.Hand.ops_part33 (F := Ideal)) (n := 69) (by decide))) rfl rfl rfl (by decide) (by decide) (ha := ⟨by decide, rfl⟩) (hb := ⟨by decide, rfl⟩) (hy := ⟨by decide, rfl⟩)
  rw [hk, hr, ← c_main_v45__main_v144 hag hel, ← c_main_v465__main_v1634 hag hel]
  rfl

end Cert.Value

end
-- ==== Proof.Val.C014.lean ====
/- Steps C014 of the value claim's chain: for each listed pair, the kernel program's buffer and its reference twin hold equal contents at the two programs' final
   valuations — the two operations are the same function (read off the two operation lists) of operands already paired. A table; written by: bun scratch/corr.js 60 -/
import proofs.«146970_j35948876268088_1_alg».proof.Proof.Val.Seed
import proofs.«146970_j35948876268088_1_alg».proof.Proof.KI.Dots
import Mathlib.Tactic.FinCases
import proofs.«146970_j35948876268088_1_alg».proof.Proof.Val.C000
import proofs.«146970_j35948876268088_1_alg».proof.Proof.Val.C006
import proofs.«146970_j35948876268088_1_alg».proof.Proof.Val.C013

set_option maxRecDepth 16384

noncomputable section

namespace Cert.Value

open Idealize.ShloMosaic Idealize.ShloMosaic.TcCoe Idealize.SL.Sem

variable {m : (ℓ : Loc Cert.KernelIdeal.nD Cert.KernelIdeal.τ Cert.KernelIdeal.sig) → Buf (Elt Ideal) ℓ} {ρ : Dev Cert.KernelIdeal.nD → PrngReg}
  {m' : (ℓ : Loc Cert.ReferenceIdeal.nD Cert.ReferenceIdeal.τ Cert.ReferenceIdeal.sig) → Buf (Elt Ideal) ℓ} {c : Dev Cert.KernelIdeal.nD} (hag : Agree m m') (hel : Els m' c)
include hag hel

theorem c_main_v468__main_v1673 : StableHlo.after Cert.KernelIdeal.Hand.KOps (Cert.KernelIdeal.Hand.Wl (F := Ideal) m ρ c) (Proc.devRef .tc Cert.KernelIdeal.main_v468) = StableHlo.after (Cert.ReferenceIdeal.Hand.ops (F := Ideal)) (StableHlo.launchContents m' c) (Proc.devRef .tc Cert.ReferenceIdeal.main_v1673) := by
  have hk := StableHlo.Ascending.eq_binary Cert.KernelIdeal.Hand.KOps_asc (Cert.KernelIdeal.Hand.Wl m ρ c) (Cert.KernelIdeal.Hand.mem_KOps_st7 (Cert.KernelIdeal.Hand.mem_st_7_36 (List.getElem_mem (l := Cert.KernelIdeal.GenP.hostOps7_36 (F := Ideal)) (n := 6) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part33 (List.getElem_mem (l := Cert.ReferenceIdeal.Hand.ops_part33 (F := Ideal)) (n := 70) (by decide))) rfl rfl rfl (by decide) (by decide) (ha := ⟨by decide, rfl⟩) (hb := ⟨by decide, rfl⟩) (hy := ⟨by decide, rfl⟩)
  rw [hk, hr, ← c_main_v38__main_v137 hag hel, ← c_main_v465__main_v1634 hag hel]
  rfl

theorem c_main_v469__main_v1674 : StableHlo.after Cert.KernelIdeal.Hand.KOps (Cert.KernelIdeal.Hand.Wl (F := Ideal) m ρ c) (Proc.devRef .tc Cert.KernelIdeal.main_v469) = StableHlo.after (Cert.ReferenceIdeal.Hand.ops (F := Ideal)) (StableHlo.launchContents m' c) (Proc.devRef .tc Cert.ReferenceIdeal.main_v1674) := by
  have hk := StableHlo.Ascending.eq_unary Cert.KernelIdeal.Hand.KOps_asc (Cert.KernelIdeal.Hand.Wl m ρ c) (Cert.KernelIdeal.Hand.mem_KOps_st7 (Cert.KernelIdeal.Hand.mem_st_7_36 (List.getElem_mem (l := Cert.KernelIdeal.GenP.hostOps7_36 (F := Ideal)) (n := 7) (by decide)))) rfl rfl (by decide) (x := Cert.KernelIdeal.main_v462) (y := Cert.KernelIdeal.main_v469) (f := open Cert.KernelIdeal Cert.KernelIdeal.Gen in (extractStridedSlice S8x1 ![0, 0] · slices_S16x1_S8x1_0_0)) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part33 (List.getElem_mem (l := Cert.ReferenceIdeal.Hand.ops_part33 (F := Ideal)) (n := 71) (by decide))) rfl rfl (by decide) (x := Cert.ReferenceIdeal.main_v1631) (y := Cert.ReferenceIdeal.main_v1674) (f := open Cert.ReferenceIdeal Cert.ReferenceIdeal.Gen in (extractStridedSlice S8x1 ![0, 0] · slices_S16x1_S8x1_0_0)) (hx := ⟨by decide, rfl⟩) (hy := ⟨by decide, rfl⟩)
  rw [hk, hr, ← c_main_v462__main_v1631 hag hel]

theorem c_main_v470__main_v1675 : StableHlo.after Cert.KernelIdeal.Hand.KOps (Cert.KernelIdeal.Hand.Wl (F := Ideal) m ρ c) (Proc.devRef .tc Cert.KernelIdeal.main_v470) = StableHlo.after (Cert.ReferenceIdeal.Hand.ops (F := Ideal)) (StableHlo.launchContents m' c) (Proc.devRef .tc Cert.ReferenceIdeal.main_v1675) := by
  have hk := StableHlo.Ascending.eq_binary Cert.KernelIdeal.Hand.KOps_asc (Cert.KernelIdeal.Hand.Wl m ρ c) (Cert.KernelIdeal.Hand.mem_KOps_st7 (Cert.KernelIdeal.Hand.mem_st_7_36 (List.getElem_mem (l := Cert.KernelIdeal.GenP.hostOps7_36 (F := Ideal)) (n := 8) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part33 (List.getElem_mem (l := Cert.ReferenceIdeal.Hand.ops_part33 (F := Ideal)) (n := 72) (by decide))) rfl rfl rfl (by decide) (by decide) (ha := ⟨by decide, rfl⟩) (hb := ⟨by decide, rfl⟩) (hy := ⟨by decide, rfl⟩)
  rw [hk, hr, ← c_main_v467__main_v1672 hag hel, ← c_main_v469__main_v1674 hag hel]
  rfl

theorem c_main_v471__main_v1676 : StableHlo.after Cert.KernelIdeal.Hand.KOps (Cert.KernelIdeal.Hand.Wl (F := Ideal) m ρ c) (Proc.devRef .tc Cert.KernelIdeal.main_v471) = StableHlo.after (Cert.ReferenceIdeal.Hand.ops (F := Ideal)) (StableHlo.launchContents m' c) (Proc.devRef .tc Cert.ReferenceIdeal.main_v1676) := by
  have hk := StableHlo.Ascending.eq_unary Cert.KernelIdeal.Hand.KOps_asc (Cert.KernelIdeal.Hand.Wl m ρ c) (Cert.KernelIdeal.Hand.mem_KOps_st7 (Cert.KernelIdeal.Hand.mem_st_7_36 (List.getElem_mem (l := Cert.KernelIdeal.GenP.hostOps7_36 (F := Ideal)) (n := 9) (by decide)))) rfl rfl (by decide) (x := Cert.KernelIdeal.main_v462) (y := Cert.KernelIdeal.main_v471) (f := open Cert.KernelIdeal Cert.KernelIdeal.Gen in (extractStridedSlice S8x1 ![8, 0] · slices_S16x1_S8x1_8_0)) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part33 (List.getElem_mem (l := Cert.ReferenceIdeal.Hand.ops_part33 (F := Ideal)) (n := 73) (by decide))) rfl rfl (by decide) (x := Cert.ReferenceIdeal.main_v1631) (y := Cert.ReferenceIdeal.main_v1676) (f := open Cert.ReferenceIdeal Cert.ReferenceIdeal.Gen in (extractStridedSlice S8x1 ![8, 0] · slices_S16x1_S8x1_8_0)) (hx := ⟨by decide, rfl⟩) (hy := ⟨by decide, rfl⟩)
  rw [hk, hr, ← c_main_v462__main_v1631 hag hel]

theorem c_main_v472__main_v1677 : StableHlo.after Cert.KernelIdeal.Hand.KOps (Cert.KernelIdeal.Hand.Wl (F := Ideal) m ρ c) (Proc.devRef .tc Cert.KernelIdeal.main_v472) = StableHlo.after (Cert.ReferenceIdeal.Hand.ops (F := Ideal)) (StableHlo.launchContents m' c) (Proc.devRef .tc Cert.ReferenceIdeal.main_v1677) := by
  have hk := StableHlo.Ascending.eq_binary Cert.KernelIdeal.Hand.KOps_asc (Cert.KernelIdeal.Hand.Wl m ρ c) (Cert.KernelIdeal.Hand.mem_KOps_st7 (Cert.KernelIdeal.Hand.mem_st_7_36 (List.getElem_mem (l := Cert.KernelIdeal.GenP.hostOps7_36 (F := Ideal)) (n := 10) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part33 (List.getElem_mem (l := Cert.ReferenceIdeal.Hand.ops_part33 (F := Ideal)) (n := 74) (by decide))) rfl rfl rfl (by decide) (by decide) (ha := ⟨by decide, rfl⟩) (hb := ⟨by decide, rfl⟩) (hy := ⟨by decide, rfl⟩)
  rw [hk, hr, ← c_main_v468__main_v1673 hag hel, ← c_main_v471__main_v1676 hag hel]
  rfl

theorem c_main_v473__main_v1678 : StableHlo.after Cert.KernelIdeal.Hand.KOps (Cert.KernelIdeal.Hand.Wl (F := Ideal) m ρ c) (Proc.devRef .tc Cert.KernelIdeal.main_v473) = StableHlo.after (Cert.ReferenceIdeal.Hand.ops (F := Ideal)) (StableHlo.launchContents m' c) (Proc.devRef .tc Cert.ReferenceIdeal.main_v1678) := by
  have hk := StableHlo.Ascending.eq_unary Cert.KernelIdeal.Hand.KOps_asc (Cert.KernelIdeal.Hand.Wl m ρ c) (Cert.KernelIdeal.Hand.mem_KOps_st7 (Cert.KernelIdeal.Hand.mem_st_7_36 (List.getElem_mem (l := Cert.KernelIdeal.GenP.hostOps7_36 (F := Ideal)) (n := 11) (by decide)))) rfl rfl (by decide) (x := Cert.KernelIdeal.main_v472) (y := Cert.KernelIdeal.main_v473) (f := open Cert.KernelIdeal Cert.KernelIdeal.Gen in (transpose S1x2048 [1, 0] · transposes_S2048x1_S1x2048_1_0)) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part33 (List.getElem_mem (l := Cert.ReferenceIdeal.Hand.ops_part33 (F := Ideal)) (n := 75) (by decide))) rfl rfl (by decide) (x := Cert.ReferenceIdeal.main_v1677) (y := Cert.ReferenceIdeal.main_v1678) (f := open Cert.ReferenceIdeal Cert.ReferenceIdeal.Gen in (transpose S1x2048 [1, 0] · transposes_S2048x1_S1x2048_1_0)) (hx := ⟨by decide, rfl⟩) (hy := ⟨by decide, rfl⟩)
  rw [hk, hr, ← c_main_v472__main_v1677 hag hel]

theorem c_main_v474__main_v1679 : StableHlo.after Cert.KernelIdeal.Hand.KOps (Cert.KernelIdeal.Hand.Wl (F := Ideal) m ρ c) (Proc.devRef .tc Cert.KernelIdeal.main_v474) = StableHlo.after (Cert.ReferenceIdeal.Hand.ops (F := Ideal)) (StableHlo.launchContents m' c) (Proc.devRef .tc Cert.ReferenceIdeal.main_v1679) := by
  have hk := StableHlo.Ascending.eq_unary Cert.KernelIdeal.Hand.KOps_asc (Cert.KernelIdeal.Hand.Wl m ρ c) (Cert.KernelIdeal.Hand.mem_KOps_st7 (Cert.KernelIdeal.Hand.mem_st_7_36 (List.getElem_mem (l := Cert.KernelIdeal.GenP.hostOps7_36 (F := Ideal)) (n := 12) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part34 (List.getElem_mem (l := Cert.ReferenceIdeal.Hand.ops_part34 (F := Ideal)) (n := 0) (by decide))) rfl rfl (by decide) (hx := ⟨by decide, rfl⟩) (hy := ⟨by decide, rfl⟩)
  rw [hk, hr, ← c_main_v470__main_v1675 hag hel]

theorem c_main_v475__main_v1680 : StableHlo.after Cert.KernelIdeal.Hand.KOps (Cert.KernelIdeal.Hand.Wl (F := Ideal) m ρ c) (Proc.devRef .tc Cert.KernelIdeal.main_v475) = StableHlo.after (Cert.ReferenceIdeal.Hand.ops (F := Ideal)) (StableHlo.launchContents m' c) (Proc.devRef .tc Cert.ReferenceIdeal.main_v1680) := by
  have hk := StableHlo.Ascending.eq_unary Cert.KernelIdeal.Hand.KOps_asc (Cert.KernelIdeal.Hand.Wl m ρ c) (Cert.KernelIdeal.Hand.mem_KOps_st7 (Cert.KernelIdeal.Hand.mem_st_7_36 (List.getElem_mem (l := Cert.KernelIdeal.GenP.hostOps7_36 (F := Ideal)) (n := 13) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part34 (List.getElem_mem (l := Cert.ReferenceIdeal.Hand.ops_part34 (F := Ideal)) (n := 1) (by decide))) rfl rfl (by decide) (hx := ⟨by decide, rfl⟩) (hy := ⟨by decide, rfl⟩)
  rw [hk, hr, ← c_main_v473__main_v1678 hag hel]

theorem c_main_v476__main_v1681 : StableHlo.after Cert.KernelIdeal.Hand.KOps (Cert.KernelIdeal.Hand.Wl (F := Ideal) m ρ c) (Proc.devRef .tc Cert.KernelIdeal.main_v476) = StableHlo.after (Cert.ReferenceIdeal.Hand.ops (F := Ideal)) (StableHlo.launchContents m' c) (Proc.devRef .tc Cert.ReferenceIdeal.main_v1681) := by
  have hk := StableHlo.Ascending.eq_binary Cert.KernelIdeal.Hand.KOps_asc (Cert.KernelIdeal.Hand.Wl m ρ c) (Cert.KernelIdeal.Hand.mem_KOps_st7 (Cert.KernelIdeal.Hand.mem_st_7_36 (List.getElem_mem (l := Cert.KernelIdeal.GenP.hostOps7_36 (F := Ideal)) (n := 14) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part34 (List.getElem_mem (l := Cert.ReferenceIdeal.Hand.ops_part34 (F := Ideal)) (n := 2) (by decide))) rfl rfl rfl (by decide) (by decide) (ha := ⟨by decide, rfl⟩) (hb := ⟨by decide, rfl⟩) (hy := ⟨by decide, rfl⟩)
  rw [hk, hr, ← c_main_v474__main_v1679 hag hel, ← c_main_v475__main_v1680 hag hel]

theorem c_main_cst_91__main_cst_359 : StableHlo.after Cert.KernelIdeal.Hand.KOps (Cert.KernelIdeal.Hand.Wl (F := Ideal) m ρ c) (Proc.devRef .tc Cert.KernelIdeal.main_cst_91) = StableHlo.after (Cert.ReferenceIdeal.Hand.ops (F := Ideal)) (StableHlo.launchContents m' c) (Proc.devRef .tc Cert.ReferenceIdeal.main_cst_359) := by
  have hk := StableHlo.Ascending.eq_nullary Cert.KernelIdeal.Hand.KOps_asc (Cert.KernelIdeal.Hand.Wl m ρ c) (Cert.KernelIdeal.Hand.mem_KOps_st7 (Cert.KernelIdeal.Hand.mem_st_7_36 (List.getElem_mem (l := Cert.KernelIdeal.GenP.hostOps7_36 (F := Ideal)) (n := 15) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part34 (List.getElem_mem (l := Cert.ReferenceIdeal.Hand.ops_part34 (F := Ideal)) (n := 3) (by decide))) rfl (hy := ⟨by decide, rfl⟩)
  rw [hk, hr]

theorem c_main_call19_cst__main_call78_cst : StableHlo.after Cert.KernelIdeal.Hand.KOps (Cert.KernelIdeal.Hand.Wl (F := Ideal) m ρ c) (Proc.devRef .tc Cert.KernelIdeal.main_call19_cst) = StableHlo.after (Cert.ReferenceIdeal.Hand.ops (F := Ideal)) (StableHlo.launchContents m' c) (Proc.devRef .tc Cert.ReferenceIdeal.main_call78_cst) := by
  have hk := StableHlo.Ascending.eq_nullary Cert.KernelIdeal.Hand.KOps_asc (Cert.KernelIdeal.Hand.Wl m ρ c) (Cert.KernelIdeal.Hand.mem_KOps_st7 (Cert.KernelIdeal.Hand.mem_st_7_37 (List.getElem_mem (l := Cert.KernelIdeal.GenP.hostOps7_37 (F := Ideal)) (n := 0) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part34 (List.getElem_mem (l := Cert.ReferenceIdeal.Hand.ops_part34 (F := Ideal)) (n := 4) (by decide))) rfl (hy := ⟨by decide, rfl⟩)
  rw [hk, hr]

theorem c_main_call19_v0__main_call78_v0 : StableHlo.after Cert.KernelIdeal.Hand.KOps (Cert.KernelIdeal.Hand.Wl (F := Ideal) m ρ c) (Proc.devRef .tc Cert.KernelIdeal.main_call19_v0) = StableHlo.after (Cert.ReferenceIdeal.Hand.ops (F := Ideal)) (StableHlo.launchContents m' c) (Proc.devRef .tc Cert.ReferenceIdeal.main_call78_v0) := by
  have hk := StableHlo.Ascending.eq_unary Cert.KernelIdeal.Hand.KOps_asc (Cert.KernelIdeal.Hand.Wl m ρ c) (Cert.KernelIdeal.Hand.mem_KOps_st7 (Cert.KernelIdeal.Hand.mem_st_7_37 (List.getElem_mem (l := Cert.KernelIdeal.GenP.hostOps7_37 (F := Ideal)) (n := 1) (by decide)))) rfl rfl (by decide) (x := Cert.KernelIdeal.main_call19_cst) (y := Cert.KernelIdeal.main_call19_v0) (f := open Cert.KernelIdeal Cert.KernelIdeal.Gen in (broadcastInDim S2048x2048 ![] bcast_S_S2048x2048)) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part34 (List.getElem_mem (l := Cert.ReferenceIdeal.Hand.ops_part34 (F := Ideal)) (n := 5) (by decide))) rfl rfl (by decide) (x := Cert.ReferenceIdeal.main_call78_cst) (y := Cert.ReferenceIdeal.main_call78_v0) (f := open Cert.ReferenceIdeal Cert.ReferenceIdeal.Gen in (broadcastInDim S2048x2048 ![] bcast_S_S2048x2048)) (hx := ⟨by decide, rfl⟩) (hy := ⟨by decide, rfl⟩)
  rw [hk, hr, ← c_main_call19_cst__main_call78_cst hag hel]

theorem c_main_call19_v1__main_call78_v1 : StableHlo.after Cert.KernelIdeal.Hand.KOps (Cert.KernelIdeal.Hand.Wl (F := Ideal) m ρ c) (Proc.devRef .tc Cert.KernelIdeal.main_call19_v1) = StableHlo.after (Cert.ReferenceIdeal.Hand.ops (F := Ideal)) (StableHlo.launchContents m' c) (Proc.devRef .tc Cert.ReferenceIdeal.main_call78_v1) := by
  have hk := StableHlo.Ascending.eq_binary Cert.KernelIdeal.Hand.KOps_asc (Cert.KernelIdeal.Hand.Wl m ρ c) (Cert.KernelIdeal.Hand.mem_KOps_st7 (Cert.KernelIdeal.Hand.mem_st_7_37 (List.getElem_mem (l := Cert.KernelIdeal.GenP.hostOps7_37 (F := Ideal)) (n := 2) (by decide)))) rfl rfl rfl (by decide) (by decide) (a := Cert.KernelIdeal.main_v476) (b := Cert.KernelIdeal.main_call19_v0) (y := Cert.KernelIdeal.main_call19_v1) (f := open Cert.KernelIdeal Cert.KernelIdeal.Gen in (cmpf (F := Ideal) .oge)) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part34 (List.getElem_mem (l := Cert.ReferenceIdeal.Hand.ops_part34 (F := Ideal)) (n := 6) (by decide))) rfl rfl rfl (by decide) (by decide) (a := Cert.ReferenceIdeal.main_v1681) (b := Cert.ReferenceIdeal.main_call78_v0) (y := Cert.ReferenceIdeal.main_call78_v1) (f := open Cert.ReferenceIdeal Cert.ReferenceIdeal.Gen in (cmpf (F := Ideal) .oge)) (ha := ⟨by decide, rfl⟩) (hb := ⟨by decide, rfl⟩) (hy := ⟨by decide, rfl⟩)
  rw [hk, hr, ← c_main_v476__main_v1681 hag hel, ← c_main_call19_v0__main_call78_v0 hag hel]

theorem c_main_call19_v2__main_call78_v2 : StableHlo.after Cert.KernelIdeal.Hand.KOps (Cert.KernelIdeal.Hand.Wl (F := Ideal) m ρ c) (Proc.devRef .tc Cert.KernelIdeal.main_call19_v2) = StableHlo.after (Cert.ReferenceIdeal.Hand.ops (F := Ideal)) (StableHlo.launchContents m' c) (Proc.devRef .tc Cert.ReferenceIdeal.main_call78_v2) := by
  have hk := StableHlo.Ascending.eq_unary Cert.KernelIdeal.Hand.KOps_asc (Cert.KernelIdeal.Hand.Wl m ρ c) (Cert.KernelIdeal.Hand.mem_KOps_st7 (Cert.KernelIdeal.Hand.mem_st_7_37 (List.getElem_mem (l := Cert.KernelIdeal.GenP.hostOps7_37 (F := Ideal)) (n := 3) (by decide)))) rfl rfl (by decide) (x := Cert.KernelIdeal.main_cst_91) (y := Cert.KernelIdeal.main_call19_v2) (f := open Cert.KernelIdeal Cert.KernelIdeal.Gen in id) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part34 (List.getElem_mem (l := Cert.ReferenceIdeal.Hand.ops_part34 (F := Ideal)) (n := 7) (by decide))) rfl rfl (by decide) (x := Cert.ReferenceIdeal.main_cst_359) (y := Cert.ReferenceIdeal.main_call78_v2) (f := open Cert.ReferenceIdeal Cert.ReferenceIdeal.Gen in id) (hx := ⟨by decide, rfl⟩) (hy := ⟨by decide, rfl⟩)
  rw [hk, hr, ← c_main_cst_91__main_cst_359 hag hel]

theorem c_main_call19_v3__main_call78_v3 : StableHlo.after Cert.KernelIdeal.Hand.KOps (Cert.KernelIdeal.Hand.Wl (F := Ideal) m ρ c) (Proc.devRef .tc Cert.KernelIdeal.main_call19_v3) = StableHlo.after (Cert.ReferenceIdeal.Hand.ops (F := Ideal)) (StableHlo.launchContents m' c) (Proc.devRef .tc Cert.ReferenceIdeal.main_call78_v3) := by
  have hk := StableHlo.Ascending.eq_unary Cert.KernelIdeal.Hand.KOps_asc (Cert.KernelIdeal.Hand.Wl m ρ c) (Cert.KernelIdeal.Hand.mem_KOps_st7 (Cert.KernelIdeal.Hand.mem_st_7_37 (List.getElem_mem (l := Cert.KernelIdeal.GenP.hostOps7_37 (F := Ideal)) (n := 4) (by decide)))) rfl rfl (by decide) (x := Cert.KernelIdeal.main_call19_v2) (y := Cert.KernelIdeal.main_call19_v3) (f := open Cert.KernelIdeal Cert.KernelIdeal.Gen in (broadcastInDim S2048x2048 ![] bcast_S_S2048x2048)) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part34 (List.getElem_mem (l := Cert.ReferenceIdeal.Hand.ops_part34 (F := Ideal)) (n := 8) (by decide))) rfl rfl (by decide) (x := Cert.ReferenceIdeal.main_call78_v2) (y := Cert.ReferenceIdeal.main_call78_v3) (f := open Cert.ReferenceIdeal Cert.ReferenceIdeal.Gen in (broadcastInDim S2048x2048 ![] bcast_S_S2048x2048)) (hx := ⟨by decide, rfl⟩) (hy := ⟨by decide, rfl⟩)
  rw [hk, hr, ← c_main_call19_v2__main_call78_v2 hag hel]

theorem c_main_call19_v4__main_call78_v4 : StableHlo.after Cert.KernelIdeal.Hand.KOps (Cert.KernelIdeal.Hand.Wl (F := Ideal) m ρ c) (Proc.devRef .tc Cert.KernelIdeal.main_call19_v4) = StableHlo.after (Cert.ReferenceIdeal.Hand.ops (F := Ideal)) (StableHlo.launchContents m' c) (Proc.devRef .tc Cert.ReferenceIdeal.main_call78_v4) := by
  have hk := StableHlo.Ascending.eq_binary Cert.KernelIdeal.Hand.KOps_asc (Cert.KernelIdeal.Hand.Wl m ρ c) (Cert.KernelIdeal.Hand.mem_KOps_st7 (Cert.KernelIdeal.Hand.mem_st_7_37 (List.getElem_mem (l := Cert.KernelIdeal.GenP.hostOps7_37 (F := Ideal)) (n := 5) (by decide)))) rfl rfl rfl (by decide) (by decide) (a := Cert.KernelIdeal.main_call19_v3) (b := Cert.KernelIdeal.main_v476) (y := Cert.KernelIdeal.main_call19_v4) (f := open Cert.KernelIdeal Cert.KernelIdeal.Gen in mulf (F := Ideal)) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part34 (List.getElem_mem (l := Cert.ReferenceIdeal.Hand.ops_part34 (F := Ideal)) (n := 9) (by decide))) rfl rfl rfl (by decide) (by decide) (a := Cert.ReferenceIdeal.main_call78_v3) (b := Cert.ReferenceIdeal.main_v1681) (y := Cert.ReferenceIdeal.main_call78_v4) (f := open Cert.ReferenceIdeal Cert.ReferenceIdeal.Gen in mulf (F := Ideal)) (ha := ⟨by decide, rfl⟩) (hb := ⟨by decide, rfl⟩) (hy := ⟨by decide, rfl⟩)
  rw [hk, hr, ← c_main_call19_v3__main_call78_v3 hag hel, ← c_main_v476__main_v1681 hag hel]

theorem c_main_v477__main_v1682 : StableHlo.after Cert.KernelIdeal.Hand.KOps (Cert.KernelIdeal.Hand.Wl (F := Ideal) m ρ c) (Proc.devRef .tc Cert.KernelIdeal.main_v477) = StableHlo.after (Cert.ReferenceIdeal.Hand.ops (F := Ideal)) (StableHlo.launchContents m' c) (Proc.devRef .tc Cert.ReferenceIdeal.main_v1682) := by
  have hk := StableHlo.Ascending.eq_ternary Cert.KernelIdeal.Hand.KOps_asc (Cert.KernelIdeal.Hand.Wl m ρ c) (Cert.KernelIdeal.Hand.mem_KOps_st7 (Cert.KernelIdeal.Hand.mem_st_7_37 (List.getElem_mem (l := Cert.KernelIdeal.GenP.hostOps7_37 (F := Ideal)) (n := 6) (by decide)))) rfl rfl rfl rfl (by decide) (by decide) (by decide) (c := Cert.KernelIdeal.main_call19_v1) (a := Cert.KernelIdeal.main_v476) (b := Cert.KernelIdeal.main_call19_v4) (y := Cert.KernelIdeal.main_v477) (f := (select : (⟨Cert.KernelIdeal.S2048x2048, .i1⟩ : BufTy).Contents (Elt Ideal) → (⟨Cert.KernelIdeal.S2048x2048, .f32⟩ : BufTy).Contents (Elt Ideal) → (⟨Cert.KernelIdeal.S2048x2048, .f32⟩ : BufTy).Contents (Elt Ideal) → (⟨Cert.KernelIdeal.S2048x2048, .f32⟩ : BufTy).Contents (Elt Ideal))) (hc := ⟨by decide, rfl⟩) (ha := ⟨by decide, rfl⟩) (hb := ⟨by decide, rfl⟩) (hy := ⟨by decide, rfl⟩)
  have hr := StableHlo.Ascending.eq_ternary (Cert.ReferenceIdeal.Hand.ops_asc (F := Ideal)) (StableHlo.launchContents m' c) (Cert.ReferenceIdeal.Hand.mem_ops_part34 (List.getElem_mem (l := Cert.ReferenceIdeal.Hand.ops_part34 (F := Ideal)) (n := 10) (by decide))) rfl rfl rfl rfl (by decide) (by decide) (by decide) (c := Cert.ReferenceIdeal.main_call78_v1) (a := Cert.ReferenceIdeal.main_v1681) (b := Cert.ReferenceIdeal.main_call78_v4) (y := Cert.ReferenceIdeal.main_v1682) (f := (select : (⟨Cert.ReferenceIdeal.S2048x2048, .i1⟩ : BufTy).Contents (Elt Ideal) → (⟨Cert.ReferenceIdeal.S2048x2048, .f32⟩ : BufTy).Contents (Elt Ideal) → (⟨Cert.ReferenceIdeal.S2048x2048, .f32⟩ : BufTy).Contents (Elt Ideal) → (⟨Cert.ReferenceIdeal.S2048x2048, .f32⟩ : BufTy).Contents (Elt Ideal))) (hc := ⟨by decide, rfl⟩) (ha := ⟨by decide, rfl⟩) (hb := ⟨by decide, rfl⟩) (hy := ⟨by decide, rfl⟩)
  rw [hk, hr, ← c_main_call19_v1__main_call78_v1 hag hel, ← c_main_v476__main_v1681 hag hel, ← c_main_call19_v4__main_call78_v4 hag hel]

theorem c_main_cst_92__main_cst_360 : StableHlo.after Cert.KernelIdeal.Hand.KOps (Cert.KernelIdeal.Hand.Wl (F := Ideal) m ρ c) (Proc.devRef .tc Cert.KernelIdeal.main_cst_92) = StableHlo.after (Cert.ReferenceIdeal.Hand.ops (F := Ideal)) (StableHlo.launchContents m' c) (Proc.devRef .tc Cert.ReferenceIdeal.main_cst_360) := by
  have hk := StableHlo.Ascending.eq_nullary Cert.KernelIdeal.Hand.KOps_asc (Cert.KernelIdeal.Hand.Wl m ρ c) (Cert.KernelIdeal.Hand.mem_KOps_st7 (Cert.KernelIdeal.Hand.mem_st_7_38 (List.getElem_mem (l := Cert.KernelIdeal.GenP.hostOps7_38 (F := Ideal)) (n := 0) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part34 (List.getElem_mem (l := Cert.ReferenceIdeal.Hand.ops_part34 (F := Ideal)) (n := 11) (by decide))) rfl (hy := ⟨by decide, rfl⟩)
  rw [hk, hr]

theorem c_main_v478__main_v1683 : StableHlo.after Cert.KernelIdeal.Hand.KOps (Cert.KernelIdeal.Hand.Wl (F := Ideal) m ρ c) (Proc.devRef .tc Cert.KernelIdeal.main_v478) = StableHlo.after (Cert.ReferenceIdeal.Hand.ops (F := Ideal)) (StableHlo.launchContents m' c) (Proc.devRef .tc Cert.ReferenceIdeal.main_v1683) := by
  have hk := StableHlo.Ascending.eq_binary Cert.KernelIdeal.Hand.KOps_asc (Cert.KernelIdeal.Hand.Wl m ρ c) (Cert.KernelIdeal.Hand.mem_KOps_st7 (Cert.KernelIdeal.Hand.mem_st_7_38 (List.getElem_mem (l := Cert.KernelIdeal.GenP.hostOps7_38 (F := Ideal)) (n := 1) (by decide)))) rfl rfl rfl (by decide) (by decide) (a := Cert.KernelIdeal.main_v196) (b := Cert.KernelIdeal.main_cst_92) (y := Cert.KernelIdeal.main_v478) (f := open Cert.KernelIdeal Cert.KernelIdeal.Gen in (fun x v => Host.reduce (FloatOps.minimumf (F := Ideal)) x v reducesTo_S2048x1_S_d0_1 h_S_)) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part34 (List.getElem_mem (l := Cert.ReferenceIdeal.Hand.ops_part34 (F := Ideal)) (n := 12) (by decide))) rfl rfl rfl (by decide) (by decide) (a := Cert.ReferenceIdeal.main_v1666) (b := Cert.ReferenceIdeal.main_cst_360) (y := Cert.ReferenceIdeal.main_v1683) (f := open Cert.ReferenceIdeal Cert.ReferenceIdeal.Gen in (fun x v => Host.reduce (FloatOps.minimumf (F := Ideal)) x v reducesTo_S2048x1_S_d0_1 h_S_)) (ha := ⟨by decide, rfl⟩) (hb := ⟨by decide, rfl⟩) (hy := ⟨by decide, rfl⟩)
  rw [hk, hr, ← c_main_v196__main_v1666 hag hel, ← c_main_cst_92__main_cst_360 hag hel]

theorem c_main_v479__main_v1684 : StableHlo.after Cert.KernelIdeal.Hand.KOps (Cert.KernelIdeal.Hand.Wl (F := Ideal) m ρ c) (Proc.devRef .tc Cert.KernelIdeal.main_v479) = StableHlo.after (Cert.ReferenceIdeal.Hand.ops (F := Ideal)) (StableHlo.launchContents m' c) (Proc.devRef .tc Cert.ReferenceIdeal.main_v1684) := by
  have hk := StableHlo.Ascending.eq_unary Cert.KernelIdeal.Hand.KOps_asc (Cert.KernelIdeal.Hand.Wl m ρ c) (Cert.KernelIdeal.Hand.mem_KOps_st7 (Cert.KernelIdeal.Hand.mem_st_7_38 (List.getElem_mem (l := Cert.KernelIdeal.GenP.hostOps7_38 (F := Ideal)) (n := 2) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part34 (List.getElem_mem (l := Cert.ReferenceIdeal.Hand.ops_part34 (F := Ideal)) (n := 13) (by decide))) rfl rfl (by decide) (hx := ⟨by decide, rfl⟩) (hy := ⟨by decide, rfl⟩)
  rw [hk, hr, ← c_main_v478__main_v1683 hag hel]

theorem c_main_v480__main_v1685 : StableHlo.after Cert.KernelIdeal.Hand.KOps (Cert.KernelIdeal.Hand.Wl (F := Ideal) m ρ c) (Proc.devRef .tc Cert.KernelIdeal.main_v480) = StableHlo.after (Cert.ReferenceIdeal.Hand.ops (F := Ideal)) (StableHlo.launchContents m' c) (Proc.devRef .tc Cert.ReferenceIdeal.main_v1685) := by
  have hk := StableHlo.Ascending.eq_binary Cert.KernelIdeal.Hand.KOps_asc (Cert.KernelIdeal.Hand.Wl m ρ c) (Cert.KernelIdeal.Hand.mem_KOps_st7 (Cert.KernelIdeal.Hand.mem_st_7_38 (List.getElem_mem (l := Cert.KernelIdeal.GenP.hostOps7_38 (F := Ideal)) (n := 3) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part34 (List.getElem_mem (l := Cert.ReferenceIdeal.Hand.ops_part34 (F := Ideal)) (n := 14) (by decide))) rfl rfl rfl (by decide) (by decide) (ha := ⟨by decide, rfl⟩) (hb := ⟨by decide, rfl⟩) (hy := ⟨by decide, rfl⟩)
  rw [hk, hr, ← c_main_v196__main_v1666 hag hel, ← c_main_v479__main_v1684 hag hel]

theorem c_main_cst_93__main_cst_361 : StableHlo.after Cert.KernelIdeal.Hand.KOps (Cert.KernelIdeal.Hand.Wl (F := Ideal) m ρ c) (Proc.devRef .tc Cert.KernelIdeal.main_cst_93) = StableHlo.after (Cert.ReferenceIdeal.Hand.ops (F := Ideal)) (StableHlo.launchContents m' c) (Proc.devRef .tc Cert.ReferenceIdeal.main_cst_361) := by
  have hk := StableHlo.Ascending.eq_nullary Cert.KernelIdeal.Hand.KOps_asc (Cert.KernelIdeal.Hand.Wl m ρ c) (Cert.KernelIdeal.Hand.mem_KOps_st7 (Cert.KernelIdeal.Hand.mem_st_7_38 (List.getElem_mem (l := Cert.KernelIdeal.GenP.hostOps7_38 (F := Ideal)) (n := 4) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part34 (List.getElem_mem (l := Cert.ReferenceIdeal.Hand.ops_part34 (F := Ideal)) (n := 15) (by decide))) rfl (hy := ⟨by decide, rfl⟩)
  rw [hk, hr]

theorem c_main_v481__main_v1686 : StableHlo.after Cert.KernelIdeal.Hand.KOps (Cert.KernelIdeal.Hand.Wl (F := Ideal) m ρ c) (Proc.devRef .tc Cert.KernelIdeal.main_v481) = StableHlo.after (Cert.ReferenceIdeal.Hand.ops (F := Ideal)) (StableHlo.launchContents m' c) (Proc.devRef .tc Cert.ReferenceIdeal.main_v1686) := by
  have hk := StableHlo.Ascending.eq_binary Cert.KernelIdeal.Hand.KOps_asc (Cert.KernelIdeal.Hand.Wl m ρ c) (Cert.KernelIdeal.Hand.mem_KOps_st7 (Cert.KernelIdeal.Hand.mem_st_7_38 (List.getElem_mem (l := Cert.KernelIdeal.GenP.hostOps7_38 (F := Ideal)) (n := 5) (by decide)))) rfl rfl rfl (by decide) (by decide) (a := Cert.KernelIdeal.main_v196) (b := Cert.KernelIdeal.main_cst_93) (y := Cert.KernelIdeal.main_v481) (f := open Cert.KernelIdeal Cert.KernelIdeal.Gen in (fun x v => Host.reduce (FloatOps.maximumf (F := Ideal)) x v reducesTo_S2048x1_S_d0_1 h_S_)) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part34 (List.getElem_mem (l := Cert.ReferenceIdeal.Hand.ops_part34 (F := Ideal)) (n := 16) (by decide))) rfl rfl rfl (by decide) (by decide) (a := Cert.ReferenceIdeal.main_v1666) (b := Cert.ReferenceIdeal.main_cst_361) (y := Cert.ReferenceIdeal.main_v1686) (f := open Cert.ReferenceIdeal Cert.ReferenceIdeal.Gen in (fun x v => Host.reduce (FloatOps.maximumf (F := Ideal)) x v reducesTo_S2048x1_S_d0_1 h_S_)) (ha := ⟨by decide, rfl⟩) (hb := ⟨by decide, rfl⟩) (hy := ⟨by decide, rfl⟩)
  rw [hk, hr, ← c_main_v196__main_v1666 hag hel, ← c_main_cst_93__main_cst_361 hag hel]

theorem c_main_cst_94__main_cst_362 : StableHlo.after Cert.KernelIdeal.Hand.KOps (Cert.KernelIdeal.Hand.Wl (F := Ideal) m ρ c) (Proc.devRef .tc Cert.KernelIdeal.main_cst_94) = StableHlo.after (Cert.ReferenceIdeal.Hand.ops (F := Ideal)) (StableHlo.launchContents m' c) (Proc.devRef .tc Cert.ReferenceIdeal.main_cst_362) := by
  have hk := StableHlo.Ascending.eq_nullary Cert.KernelIdeal.Hand.KOps_asc (Cert.KernelIdeal.Hand.Wl m ρ c) (Cert.KernelIdeal.Hand.mem_KOps_st7 (Cert.KernelIdeal.Hand.mem_st_7_38 (List.getElem_mem (l := Cert.KernelIdeal.GenP.hostOps7_38 (F := Ideal)) (n := 6) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part34 (List.getElem_mem (l := Cert.ReferenceIdeal.Hand.ops_part34 (F := Ideal)) (n := 17) (by decide))) rfl (hy := ⟨by decide, rfl⟩)
  rw [hk, hr]

theorem c_main_v482__main_v1687 : StableHlo.after Cert.KernelIdeal.Hand.KOps (Cert.KernelIdeal.Hand.Wl (F := Ideal) m ρ c) (Proc.devRef .tc Cert.KernelIdeal.main_v482) = StableHlo.after (Cert.ReferenceIdeal.Hand.ops (F := Ideal)) (StableHlo.launchContents m' c) (Proc.devRef .tc Cert.ReferenceIdeal.main_v1687) := by
  have hk := StableHlo.Ascending.eq_binary Cert.KernelIdeal.Hand.KOps_asc (Cert.KernelIdeal.Hand.Wl m ρ c) (Cert.KernelIdeal.Hand.mem_KOps_st7 (Cert.KernelIdeal.Hand.mem_st_7_38 (List.getElem_mem (l := Cert.KernelIdeal.GenP.hostOps7_38 (F := Ideal)) (n := 7) (by decide)))) rfl rfl rfl (by decide) (by decide) (a := Cert.KernelIdeal.main_v196) (b := Cert.KernelIdeal.main_cst_94) (y := Cert.KernelIdeal.main_v482) (f := open Cert.KernelIdeal Cert.KernelIdeal.Gen in (fun x v => Host.reduce (FloatOps.minimumf (F := Ideal)) x v reducesTo_S2048x1_S_d0_1 h_S_)) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part34 (List.getElem_mem (l := Cert.ReferenceIdeal.Hand.ops_part34 (F := Ideal)) (n := 18) (by decide))) rfl rfl rfl (by decide) (by decide) (a := Cert.ReferenceIdeal.main_v1666) (b := Cert.ReferenceIdeal.main_cst_362) (y := Cert.ReferenceIdeal.main_v1687) (f := open Cert.ReferenceIdeal Cert.ReferenceIdeal.Gen in (fun x v => Host.reduce (FloatOps.minimumf (F := Ideal)) x v reducesTo_S2048x1_S_d0_1 h_S_)) (ha := ⟨by decide, rfl⟩) (hb := ⟨by decide, rfl⟩) (hy := ⟨by decide, rfl⟩)
  rw [hk, hr, ← c_main_v196__main_v1666 hag hel, ← c_main_cst_94__main_cst_362 hag hel]

theorem c_main_v483__main_v1688 : StableHlo.after Cert.KernelIdeal.Hand.KOps (Cert.KernelIdeal.Hand.Wl (F := Ideal) m ρ c) (Proc.devRef .tc Cert.KernelIdeal.main_v483) = StableHlo.after (Cert.ReferenceIdeal.Hand.ops (F := Ideal)) (StableHlo.launchContents m' c) (Proc.devRef .tc Cert.ReferenceIdeal.main_v1688) := by
  have hk := StableHlo.Ascending.eq_binary Cert.KernelIdeal.Hand.KOps_asc (Cert.KernelIdeal.Hand.Wl m ρ c) (Cert.KernelIdeal.Hand.mem_KOps_st7 (Cert.KernelIdeal.Hand.mem_st_7_38 (List.getElem_mem (l := Cert.KernelIdeal.GenP.hostOps7_38 (F := Ideal)) (n := 8) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part34 (List.getElem_mem (l := Cert.ReferenceIdeal.Hand.ops_part34 (F := Ideal)) (n := 19) (by decide))) rfl rfl rfl (by decide) (by decide) (ha := ⟨by decide, rfl⟩) (hb := ⟨by decide, rfl⟩) (hy := ⟨by decide, rfl⟩)
  rw [hk, hr, ← c_main_v481__main_v1686 hag hel, ← c_main_v482__main_v1687 hag hel]

theorem c_main_v484__main_v1689 : StableHlo.after Cert.KernelIdeal.Hand.KOps (Cert.KernelIdeal.Hand.Wl (F := Ideal) m ρ c) (Proc.devRef .tc Cert.KernelIdeal.main_v484) = StableHlo.after (Cert.ReferenceIdeal.Hand.ops (F := Ideal)) (StableHlo.launchContents m' c) (Proc.devRef .tc Cert.ReferenceIdeal.main_v1689) := by
  have hk := StableHlo.Ascending.eq_unary Cert.KernelIdeal.Hand.KOps_asc (Cert.KernelIdeal.Hand.Wl m ρ c) (Cert.KernelIdeal.Hand.mem_KOps_st7 (Cert.KernelIdeal.Hand.mem_st_7_38 (List.getElem_mem (l := Cert.KernelIdeal.GenP.hostOps7_38 (F := Ideal)) (n := 9) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part34 (List.getElem_mem (l := Cert.ReferenceIdeal.Hand.ops_part34 (F := Ideal)) (n := 20) (by decide))) rfl rfl (by decide) (hx := ⟨by decide, rfl⟩) (hy := ⟨by decide, rfl⟩)
  rw [hk, hr, ← c_main_v483__main_v1688 hag hel]

theorem c_main_v485__main_v1690 : StableHlo.after Cert.KernelIdeal.Hand.KOps (Cert.KernelIdeal.Hand.Wl (F := Ideal) m ρ c) (Proc.devRef .tc Cert.KernelIdeal.main_v485) = StableHlo.after (Cert.ReferenceIdeal.Hand.ops (F := Ideal)) (StableHlo.launchContents m' c) (Proc.devRef .tc Cert.ReferenceIdeal.main_v1690) := by
  have hk := StableHlo.Ascending.eq_binary Cert.KernelIdeal.Hand.KOps_asc (Cert.KernelIdeal.Hand.Wl m ρ c) (Cert.KernelIdeal.Hand.mem_KOps_st7 (Cert.KernelIdeal.Hand.mem_st_7_38 (List.getElem_mem (l := Cert.KernelIdeal.GenP.hostOps7_38 (F := Ideal)) (n := 10) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part34 (List.getElem_mem (l := Cert.ReferenceIdeal.Hand.ops_part34 (F := Ideal)) (n := 21) (by decide))) rfl rfl rfl (by decide) (by decide) (ha := ⟨by decide, rfl⟩) (hb := ⟨by decide, rfl⟩) (hy := ⟨by decide, rfl⟩)
  rw [hk, hr, ← c_main_v480__main_v1685 hag hel, ← c_main_v484__main_v1689 hag hel]

theorem c_main_cst_95__main_cst_363 : StableHlo.after Cert.KernelIdeal.Hand.KOps (Cert.KernelIdeal.Hand.Wl (F := Ideal) m ρ c) (Proc.devRef .tc Cert.KernelIdeal.main_cst_95) = StableHlo.after (Cert.ReferenceIdeal.Hand.ops (F := Ideal)) (StableHlo.launchContents m' c) (Proc.devRef .tc Cert.ReferenceIdeal.main_cst_363) := by
  have hk := StableHlo.Ascending.eq_nullary Cert.KernelIdeal.Hand.KOps_asc (Cert.KernelIdeal.Hand.Wl m ρ c) (Cert.KernelIdeal.Hand.mem_KOps_st7 (Cert.KernelIdeal.Hand.mem_st_7_38 (List.getElem_mem (l := Cert.KernelIdeal.GenP.hostOps7_38 (F := Ideal)) (n := 11) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part34 (List.getElem_mem (l := Cert.ReferenceIdeal.Hand.ops_part34 (F := Ideal)) (n := 22) (by decide))) rfl (hy := ⟨by decide, rfl⟩)
  rw [hk, hr]

theorem c_main_v486__main_v1691 : StableHlo.after Cert.KernelIdeal.Hand.KOps (Cert.KernelIdeal.Hand.Wl (F := Ideal) m ρ c) (Proc.devRef .tc Cert.KernelIdeal.main_v486) = StableHlo.after (Cert.ReferenceIdeal.Hand.ops (F := Ideal)) (StableHlo.launchContents m' c) (Proc.devRef .tc Cert.ReferenceIdeal.main_v1691) := by
  have hk := StableHlo.Ascending.eq_binary Cert.KernelIdeal.Hand.KOps_asc (Cert.KernelIdeal.Hand.Wl m ρ c) (Cert.KernelIdeal.Hand.mem_KOps_st7 (Cert.KernelIdeal.Hand.mem_st_7_38 (List.getElem_mem (l := Cert.KernelIdeal.GenP.hostOps7_38 (F := Ideal)) (n := 12) (by decide)))) rfl rfl rfl (by decide) (by decide) (a := Cert.KernelIdeal.main_v477) (b := Cert.KernelIdeal.main_cst_95) (y := Cert.KernelIdeal.main_v486) (f := open Cert.KernelIdeal Cert.KernelIdeal.Gen in (fun x v => Host.reduce (FloatOps.maximumf (F := Ideal)) x v reducesTo_S2048x2048_S_d0_1 h_S_)) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part34 (List.getElem_mem (l := Cert.ReferenceIdeal.Hand.ops_part34 (F := Ideal)) (n := 23) (by decide))) rfl rfl rfl (by decide) (by decide) (a := Cert.ReferenceIdeal.main_v1682) (b := Cert.ReferenceIdeal.main_cst_363) (y := Cert.ReferenceIdeal.main_v1691) (f := open Cert.ReferenceIdeal Cert.ReferenceIdeal.Gen in (fun x v => Host.reduce (FloatOps.maximumf (F := Ideal)) x v reducesTo_S2048x2048_S_d0_1 h_S_)) (ha := ⟨by decide, rfl⟩) (hb := ⟨by decide, rfl⟩) (hy := ⟨by decide, rfl⟩)
  rw [hk, hr, ← c_main_v477__main_v1682 hag hel, ← c_main_cst_95__main_cst_363 hag hel]

theorem c_main_v487__main_v1692 : StableHlo.after Cert.KernelIdeal.Hand.KOps (Cert.KernelIdeal.Hand.Wl (F := Ideal) m ρ c) (Proc.devRef .tc Cert.KernelIdeal.main_v487) = StableHlo.after (Cert.ReferenceIdeal.Hand.ops (F := Ideal)) (StableHlo.launchContents m' c) (Proc.devRef .tc Cert.ReferenceIdeal.main_v1692) := by
  have hk := StableHlo.Ascending.eq_unary Cert.KernelIdeal.Hand.KOps_asc (Cert.KernelIdeal.Hand.Wl m ρ c) (Cert.KernelIdeal.Hand.mem_KOps_st7 (Cert.KernelIdeal.Hand.mem_st_7_38 (List.getElem_mem (l := Cert.KernelIdeal.GenP.hostOps7_38 (F := Ideal)) (n := 13) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part34 (List.getElem_mem (l := Cert.ReferenceIdeal.Hand.ops_part34 (F := Ideal)) (n := 24) (by decide))) rfl rfl (by decide) (hx := ⟨by decide, rfl⟩) (hy := ⟨by decide, rfl⟩)
  rw [hk, hr, ← c_main_v486__main_v1691 hag hel]

theorem c_main_v488__main_v1693 : StableHlo.after Cert.KernelIdeal.Hand.KOps (Cert.KernelIdeal.Hand.Wl (F := Ideal) m ρ c) (Proc.devRef .tc Cert.KernelIdeal.main_v488) = StableHlo.after (Cert.ReferenceIdeal.Hand.ops (F := Ideal)) (StableHlo.launchContents m' c) (Proc.devRef .tc Cert.ReferenceIdeal.main_v1693) := by
  have hk := StableHlo.Ascending.eq_binary Cert.KernelIdeal.Hand.KOps_asc (Cert.KernelIdeal.Hand.Wl m ρ c) (Cert.KernelIdeal.Hand.mem_KOps_st7 (Cert.KernelIdeal.Hand.mem_st_7_38 (List.getElem_mem (l := Cert.KernelIdeal.GenP.hostOps7_38 (F := Ideal)) (n := 14) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part34 (List.getElem_mem (l := Cert.ReferenceIdeal.Hand.ops_part34 (F := Ideal)) (n := 25) (by decide))) rfl rfl rfl (by decide) (by decide) (ha := ⟨by decide, rfl⟩) (hb := ⟨by decide, rfl⟩) (hy := ⟨by decide, rfl⟩)
  rw [hk, hr, ← c_main_v485__main_v1690 hag hel, ← c_main_v487__main_v1692 hag hel]

theorem c_main_cst_96__main_cst_364 : StableHlo.after Cert.KernelIdeal.Hand.KOps (Cert.KernelIdeal.Hand.Wl (F := Ideal) m ρ c) (Proc.devRef .tc Cert.KernelIdeal.main_cst_96) = StableHlo.after (Cert.ReferenceIdeal.Hand.ops (F := Ideal)) (StableHlo.launchContents m' c) (Proc.devRef .tc Cert.ReferenceIdeal.main_cst_364) := by
  have hk := StableHlo.Ascending.eq_nullary Cert.KernelIdeal.Hand.KOps_asc (Cert.KernelIdeal.Hand.Wl m ρ c) (Cert.KernelIdeal.Hand.mem_KOps_st7 (Cert.KernelIdeal.Hand.mem_st_7_38 (List.getElem_mem (l := Cert.KernelIdeal.GenP.hostOps7_38 (F := Ideal)) (n := 15) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part34 (List.getElem_mem (l := Cert.ReferenceIdeal.Hand.ops_part34 (F := Ideal)) (n := 26) (by decide))) rfl (hy := ⟨by decide, rfl⟩)
  rw [hk, hr]

theorem c_main_v489__main_v1694 : StableHlo.after Cert.KernelIdeal.Hand.KOps (Cert.KernelIdeal.Hand.Wl (F := Ideal) m ρ c) (Proc.devRef .tc Cert.KernelIdeal.main_v489) = StableHlo.after (Cert.ReferenceIdeal.Hand.ops (F := Ideal)) (StableHlo.launchContents m' c) (Proc.devRef .tc Cert.ReferenceIdeal.main_v1694) := by
  have hk := StableHlo.Ascending.eq_unary Cert.KernelIdeal.Hand.KOps_asc (Cert.KernelIdeal.Hand.Wl m ρ c) (Cert.KernelIdeal.Hand.mem_KOps_st7 (Cert.KernelIdeal.Hand.mem_st_7_38 (List.getElem_mem (l := Cert.KernelIdeal.GenP.hostOps7_38 (F := Ideal)) (n := 16) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part34 (List.getElem_mem (l := Cert.ReferenceIdeal.Hand.ops_part34 (F := Ideal)) (n := 27) (by decide))) rfl rfl (by decide) (hx := ⟨by decide, rfl⟩) (hy := ⟨by decide, rfl⟩)
  rw [hk, hr, ← c_main_cst_96__main_cst_364 hag hel]

theorem c_main_v490__main_v1695 : StableHlo.after Cert.KernelIdeal.Hand.KOps (Cert.KernelIdeal.Hand.Wl (F := Ideal) m ρ c) (Proc.devRef .tc Cert.KernelIdeal.main_v490) = StableHlo.after (Cert.ReferenceIdeal.Hand.ops (F := Ideal)) (StableHlo.launchContents m' c) (Proc.devRef .tc Cert.ReferenceIdeal.main_v1695) := by
  have hk := StableHlo.Ascending.eq_binary Cert.KernelIdeal.Hand.KOps_asc (Cert.KernelIdeal.Hand.Wl m ρ c) (Cert.KernelIdeal.Hand.mem_KOps_st7 (Cert.KernelIdeal.Hand.mem_st_7_38 (List.getElem_mem (l := Cert.KernelIdeal.GenP.hostOps7_38 (F := Ideal)) (n := 17) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part34 (List.getElem_mem (l := Cert.ReferenceIdeal.Hand.ops_part34 (F := Ideal)) (n := 28) (by decide))) rfl rfl rfl (by decide) (by decide) (ha := ⟨by decide, rfl⟩) (hb := ⟨by decide, rfl⟩) (hy := ⟨by decide, rfl⟩)
  rw [hk, hr, ← c_main_v24__main_v122 hag hel, ← c_main_v489__main_v1694 hag hel]

theorem c_main_v491__main_v1696 : StableHlo.after Cert.KernelIdeal.Hand.KOps (Cert.KernelIdeal.Hand.Wl (F := Ideal) m ρ c) (Proc.devRef .tc Cert.KernelIdeal.main_v491) = StableHlo.after (Cert.ReferenceIdeal.Hand.ops (F := Ideal)) (StableHlo.launchContents m' c) (Proc.devRef .tc Cert.ReferenceIdeal.main_v1696) := by
  have hk := StableHlo.Ascending.eq_unary Cert.KernelIdeal.Hand.KOps_asc (Cert.KernelIdeal.Hand.Wl m ρ c) (Cert.KernelIdeal.Hand.mem_KOps_st7 (Cert.KernelIdeal.Hand.mem_st_7_38 (List.getElem_mem (l := Cert.KernelIdeal.GenP.hostOps7_38 (F := Ideal)) (n := 18) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part34 (List.getElem_mem (l := Cert.ReferenceIdeal.Hand.ops_part34 (F := Ideal)) (n := 29) (by decide))) rfl rfl (by decide) (hx := ⟨by decide, rfl⟩) (hy := ⟨by decide, rfl⟩)
  rw [hk, hr, ← c_main_v488__main_v1693 hag hel]

theorem c_main_v492__main_v1697 : StableHlo.after Cert.KernelIdeal.Hand.KOps (Cert.KernelIdeal.Hand.Wl (F := Ideal) m ρ c) (Proc.devRef .tc Cert.KernelIdeal.main_v492) = StableHlo.after (Cert.ReferenceIdeal.Hand.ops (F := Ideal)) (StableHlo.launchContents m' c) (Proc.devRef .tc Cert.ReferenceIdeal.main_v1697) := by
  have hk := StableHlo.Ascending.eq_binary Cert.KernelIdeal.Hand.KOps_asc (Cert.KernelIdeal.Hand.Wl m ρ c) (Cert.KernelIdeal.Hand.mem_KOps_st7 (Cert.KernelIdeal.Hand.mem_st_7_38 (List.getElem_mem (l := Cert.KernelIdeal.GenP.hostOps7_38 (F := Ideal)) (n := 19) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part34 (List.getElem_mem (l := Cert.ReferenceIdeal.Hand.ops_part34 (F := Ideal)) (n := 30) (by decide))) rfl rfl rfl (by decide) (by decide) (ha := ⟨by decide, rfl⟩) (hb := ⟨by decide, rfl⟩) (hy := ⟨by decide, rfl⟩)
  rw [hk, hr, ← c_main_v477__main_v1682 hag hel, ← c_main_v491__main_v1696 hag hel]

theorem c_main_cst_97__main_cst_365 : StableHlo.after Cert.KernelIdeal.Hand.KOps (Cert.KernelIdeal.Hand.Wl (F := Ideal) m ρ c) (Proc.devRef .tc Cert.KernelIdeal.main_cst_97) = StableHlo.after (Cert.ReferenceIdeal.Hand.ops (F := Ideal)) (StableHlo.launchContents m' c) (Proc.devRef .tc Cert.ReferenceIdeal.main_cst_365) := by
  have hk := StableHlo.Ascending.eq_nullary Cert.KernelIdeal.Hand.KOps_asc (Cert.KernelIdeal.Hand.Wl m ρ c) (Cert.KernelIdeal.Hand.mem_KOps_st7 (Cert.KernelIdeal.Hand.mem_st_7_38 (List.getElem_mem (l := Cert.KernelIdeal.GenP.hostOps7_38 (F := Ideal)) (n := 20) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part34 (List.getElem_mem (l := Cert.ReferenceIdeal.Hand.ops_part34 (F := Ideal)) (n := 31) (by decide))) rfl (hy := ⟨by decide, rfl⟩)
  rw [hk, hr]

theorem c_main_call20_v0__main_call79_v0 : StableHlo.after Cert.KernelIdeal.Hand.KOps (Cert.KernelIdeal.Hand.Wl (F := Ideal) m ρ c) (Proc.devRef .tc Cert.KernelIdeal.main_call20_v0) = StableHlo.after (Cert.ReferenceIdeal.Hand.ops (F := Ideal)) (StableHlo.launchContents m' c) (Proc.devRef .tc Cert.ReferenceIdeal.main_call79_v0) := by
  have hk := StableHlo.Ascending.eq_unary Cert.KernelIdeal.Hand.KOps_asc (Cert.KernelIdeal.Hand.Wl m ρ c) (Cert.KernelIdeal.Hand.mem_KOps_st7 (Cert.KernelIdeal.Hand.mem_st_7_39 (List.getElem_mem (l := Cert.KernelIdeal.GenP.hostOps7_39 (F := Ideal)) (n := 0) (by decide)))) rfl rfl (by decide) (x := Cert.KernelIdeal.main_cst_97) (y := Cert.KernelIdeal.main_call20_v0) (f := open Cert.KernelIdeal Cert.KernelIdeal.Gen in id) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part34 (List.getElem_mem (l := Cert.ReferenceIdeal.Hand.ops_part34 (F := Ideal)) (n := 32) (by decide))) rfl rfl (by decide) (x := Cert.ReferenceIdeal.main_cst_365) (y := Cert.ReferenceIdeal.main_call79_v0) (f := open Cert.ReferenceIdeal Cert.ReferenceIdeal.Gen in id) (hx := ⟨by decide, rfl⟩) (hy := ⟨by decide, rfl⟩)
  rw [hk, hr, ← c_main_cst_97__main_cst_365 hag hel]

theorem c_main_call20_v1__main_call79_v1 : StableHlo.after Cert.KernelIdeal.Hand.KOps (Cert.KernelIdeal.Hand.Wl (F := Ideal) m ρ c) (Proc.devRef .tc Cert.KernelIdeal.main_call20_v1) = StableHlo.after (Cert.ReferenceIdeal.Hand.ops (F := Ideal)) (StableHlo.launchContents m' c) (Proc.devRef .tc Cert.ReferenceIdeal.main_call79_v1) := by
  have hk := StableHlo.Ascending.eq_unary Cert.KernelIdeal.Hand.KOps_asc (Cert.KernelIdeal.Hand.Wl m ρ c) (Cert.KernelIdeal.Hand.mem_KOps_st7 (Cert.KernelIdeal.Hand.mem_st_7_39 (List.getElem_mem (l := Cert.KernelIdeal.GenP.hostOps7_39 (F := Ideal)) (n := 1) (by decide)))) rfl rfl (by decide) (x := Cert.KernelIdeal.main_call20_v0) (y := Cert.KernelIdeal.main_call20_v1) (f := open Cert.KernelIdeal Cert.KernelIdeal.Gen in (broadcastInDim S2048x2048 ![] bcast_S_S2048x2048)) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part34 (List.getElem_mem (l := Cert.ReferenceIdeal.Hand.ops_part34 (F := Ideal)) (n := 33) (by decide))) rfl rfl (by decide) (x := Cert.ReferenceIdeal.main_call79_v0) (y := Cert.ReferenceIdeal.main_call79_v1) (f := open Cert.ReferenceIdeal Cert.ReferenceIdeal.Gen in (broadcastInDim S2048x2048 ![] bcast_S_S2048x2048)) (hx := ⟨by decide, rfl⟩) (hy := ⟨by decide, rfl⟩)
  rw [hk, hr, ← c_main_call20_v0__main_call79_v0 hag hel]

theorem c_main_v493__main_v1698 : StableHlo.after Cert.KernelIdeal.Hand.KOps (Cert.KernelIdeal.Hand.Wl (F := Ideal) m ρ c) (Proc.devRef .tc Cert.KernelIdeal.main_v493) = StableHlo.after (Cert.ReferenceIdeal.Hand.ops (F := Ideal)) (StableHlo.launchContents m' c) (Proc.devRef .tc Cert.ReferenceIdeal.main_v1698) := by
  have hk := StableHlo.Ascending.eq_ternary Cert.KernelIdeal.Hand.KOps_asc (Cert.KernelIdeal.Hand.Wl m ρ c) (Cert.KernelIdeal.Hand.mem_KOps_st7 (Cert.KernelIdeal.Hand.mem_st_7_39 (List.getElem_mem (l := Cert.KernelIdeal.GenP.hostOps7_39 (F := Ideal)) (n := 2) (by decide)))) rfl rfl rfl rfl (by decide) (by decide) (by decide) (c := Cert.KernelIdeal.main_v490) (a := Cert.KernelIdeal.main_v492) (b := Cert.KernelIdeal.main_call20_v1) (y := Cert.KernelIdeal.main_v493) (f := (select : (⟨Cert.KernelIdeal.S2048x2048, .i1⟩ : BufTy).Contents (Elt Ideal) → (⟨Cert.KernelIdeal.S2048x2048, .f32⟩ : BufTy).Contents (Elt Ideal) → (⟨Cert.KernelIdeal.S2048x2048, .f32⟩ : BufTy).Contents (Elt Ideal) → (⟨Cert.KernelIdeal.S2048x2048, .f32⟩ : BufTy).Contents (Elt Ideal))) (hc := ⟨by decide, rfl⟩) (ha := ⟨by decide, rfl⟩) (hb := ⟨by decide, rfl⟩) (hy := ⟨by decide, rfl⟩)
  have hr := StableHlo.Ascending.eq_ternary (Cert.ReferenceIdeal.Hand.ops_asc (F := Ideal)) (StableHlo.launchContents m' c) (Cert.ReferenceIdeal.Hand.mem_ops_part34 (List.getElem_mem (l := Cert.ReferenceIdeal.Hand.ops_part34 (F := Ideal)) (n := 34) (by decide))) rfl rfl rfl rfl (by decide) (by decide) (by decide) (c := Cert.ReferenceIdeal.main_v1695) (a := Cert.ReferenceIdeal.main_v1697) (b := Cert.ReferenceIdeal.main_call79_v1) (y := Cert.ReferenceIdeal.main_v1698) (f := (select : (⟨Cert.ReferenceIdeal.S2048x2048, .i1⟩ : BufTy).Contents (Elt Ideal) → (⟨Cert.ReferenceIdeal.S2048x2048, .f32⟩ : BufTy).Contents (Elt Ideal) → (⟨Cert.ReferenceIdeal.S2048x2048, .f32⟩ : BufTy).Contents (Elt Ideal) → (⟨Cert.ReferenceIdeal.S2048x2048, .f32⟩ : BufTy).Contents (Elt Ideal))) (hc := ⟨by decide, rfl⟩) (ha := ⟨by decide, rfl⟩) (hb := ⟨by decide, rfl⟩) (hy := ⟨by decide, rfl⟩)
  rw [hk, hr, ← c_main_v490__main_v1695 hag hel, ← c_main_v492__main_v1697 hag hel, ← c_main_call20_v1__main_call79_v1 hag hel]

theorem c_main_cst_98__main_cst_366 : StableHlo.after Cert.KernelIdeal.Hand.KOps (Cert.KernelIdeal.Hand.Wl (F := Ideal) m ρ c) (Proc.devRef .tc Cert.KernelIdeal.main_cst_98) = StableHlo.after (Cert.ReferenceIdeal.Hand.ops (F := Ideal)) (StableHlo.launchContents m' c) (Proc.devRef .tc Cert.ReferenceIdeal.main_cst_366) := by
  have hk := StableHlo.Ascending.eq_nullary Cert.KernelIdeal.Hand.KOps_asc (Cert.KernelIdeal.Hand.Wl m ρ c) (Cert.KernelIdeal.Hand.mem_KOps_st7 (Cert.KernelIdeal.Hand.mem_st_7_40 (List.getElem_mem (l := Cert.KernelIdeal.GenP.hostOps7_40 (F := Ideal)) (n := 0) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part34 (List.getElem_mem (l := Cert.ReferenceIdeal.Hand.ops_part34 (F := Ideal)) (n := 35) (by decide))) rfl (hy := ⟨by decide, rfl⟩)
  rw [hk, hr]

theorem c_main_v494__main_v1699 : StableHlo.after Cert.KernelIdeal.Hand.KOps (Cert.KernelIdeal.Hand.Wl (F := Ideal) m ρ c) (Proc.devRef .tc Cert.KernelIdeal.main_v494) = StableHlo.after (Cert.ReferenceIdeal.Hand.ops (F := Ideal)) (StableHlo.launchContents m' c) (Proc.devRef .tc Cert.ReferenceIdeal.main_v1699) := by
  have hk := StableHlo.Ascending.eq_binary Cert.KernelIdeal.Hand.KOps_asc (Cert.KernelIdeal.Hand.Wl m ρ c) (Cert.KernelIdeal.Hand.mem_KOps_st7 (Cert.KernelIdeal.Hand.mem_st_7_40 (List.getElem_mem (l := Cert.KernelIdeal.GenP.hostOps7_40 (F := Ideal)) (n := 1) (by decide)))) rfl rfl rfl (by decide) (by decide) (a := Cert.KernelIdeal.main_v493) (b := Cert.KernelIdeal.main_cst_98) (y := Cert.KernelIdeal.main_v494) (f := open Cert.KernelIdeal Cert.KernelIdeal.Gen in (fun x v => Host.reduce (FloatOps.maximumf (F := Ideal)) x v reducesTo_S2048x2048_S2048_d1 h_S_)) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part34 (List.getElem_mem (l := Cert.ReferenceIdeal.Hand.ops_part34 (F := Ideal)) (n := 36) (by decide))) rfl rfl rfl (by decide) (by decide) (a := Cert.ReferenceIdeal.main_v1698) (b := Cert.ReferenceIdeal.main_cst_366) (y := Cert.ReferenceIdeal.main_v1699) (f := open Cert.ReferenceIdeal Cert.ReferenceIdeal.Gen in (fun x v => Host.reduce (FloatOps.maximumf (F := Ideal)) x v reducesTo_S2048x2048_S2048_d1 h_S_)) (ha := ⟨by decide, rfl⟩) (hb := ⟨by decide, rfl⟩) (hy := ⟨by decide, rfl⟩)
  rw [hk, hr, ← c_main_v493__main_v1698 hag hel, ← c_main_cst_98__main_cst_366 hag hel]

theorem c_main_cst_99__main_cst_367 : StableHlo.after Cert.KernelIdeal.Hand.KOps (Cert.KernelIdeal.Hand.Wl (F := Ideal) m ρ c) (Proc.devRef .tc Cert.KernelIdeal.main_cst_99) = StableHlo.after (Cert.ReferenceIdeal.Hand.ops (F := Ideal)) (StableHlo.launchContents m' c) (Proc.devRef .tc Cert.ReferenceIdeal.main_cst_367) := by
  have hk := StableHlo.Ascending.eq_nullary Cert.KernelIdeal.Hand.KOps_asc (Cert.KernelIdeal.Hand.Wl m ρ c) (Cert.KernelIdeal.Hand.mem_KOps_st7 (Cert.KernelIdeal.Hand.mem_st_7_40 (List.getElem_mem (l := Cert.KernelIdeal.GenP.hostOps7_40 (F := Ideal)) (n := 2) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part34 (List.getElem_mem (l := Cert.ReferenceIdeal.Hand.ops_part34 (F := Ideal)) (n := 37) (by decide))) rfl (hy := ⟨by decide, rfl⟩)
  rw [hk, hr]

theorem c_main_v495__main_v1700 : StableHlo.after Cert.KernelIdeal.Hand.KOps (Cert.KernelIdeal.Hand.Wl (F := Ideal) m ρ c) (Proc.devRef .tc Cert.KernelIdeal.main_v495) = StableHlo.after (Cert.ReferenceIdeal.Hand.ops (F := Ideal)) (StableHlo.launchContents m' c) (Proc.devRef .tc Cert.ReferenceIdeal.main_v1700) := by
  have hk := StableHlo.Ascending.eq_unary Cert.KernelIdeal.Hand.KOps_asc (Cert.KernelIdeal.Hand.Wl m ρ c) (Cert.KernelIdeal.Hand.mem_KOps_st7 (Cert.KernelIdeal.Hand.mem_st_7_40 (List.getElem_mem (l := Cert.KernelIdeal.GenP.hostOps7_40 (F := Ideal)) (n := 3) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part34 (List.getElem_mem (l := Cert.ReferenceIdeal.Hand.ops_part34 (F := Ideal)) (n := 38) (by decide))) rfl rfl (by decide) (hx := ⟨by decide, rfl⟩) (hy := ⟨by decide, rfl⟩)
  rw [hk, hr, ← c_main_cst_99__main_cst_367 hag hel]

theorem c_main_v496__main_v1701 : StableHlo.after Cert.KernelIdeal.Hand.KOps (Cert.KernelIdeal.Hand.Wl (F := Ideal) m ρ c) (Proc.devRef .tc Cert.KernelIdeal.main_v496) = StableHlo.after (Cert.ReferenceIdeal.Hand.ops (F := Ideal)) (StableHlo.launchContents m' c) (Proc.devRef .tc Cert.ReferenceIdeal.main_v1701) := by
  have hk := StableHlo.Ascending.eq_binary Cert.KernelIdeal.Hand.KOps_asc (Cert.KernelIdeal.Hand.Wl m ρ c) (Cert.KernelIdeal.Hand.mem_KOps_st7 (Cert.KernelIdeal.Hand.mem_st_7_40 (List.getElem_mem (l := Cert.KernelIdeal.GenP.hostOps7_40 (F := Ideal)) (n := 4) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part34 (List.getElem_mem (l := Cert.ReferenceIdeal.Hand.ops_part34 (F := Ideal)) (n := 39) (by decide))) rfl rfl rfl (by decide) (by decide) (ha := ⟨by decide, rfl⟩) (hb := ⟨by decide, rfl⟩) (hy := ⟨by decide, rfl⟩)
  rw [hk, hr, ← c_main_v495__main_v1700 hag hel, ← c_main_v494__main_v1699 hag hel]

theorem c_main_v497__main_v1702 : StableHlo.after Cert.KernelIdeal.Hand.KOps (Cert.KernelIdeal.Hand.Wl (F := Ideal) m ρ c) (Proc.devRef .tc Cert.KernelIdeal.main_v497) = StableHlo.after (Cert.ReferenceIdeal.Hand.ops (F := Ideal)) (StableHlo.launchContents m' c) (Proc.devRef .tc Cert.ReferenceIdeal.main_v1702) := by
  have hk := StableHlo.Ascending.eq_unary Cert.KernelIdeal.Hand.KOps_asc (Cert.KernelIdeal.Hand.Wl m ρ c) (Cert.KernelIdeal.Hand.mem_KOps_st7 (Cert.KernelIdeal.Hand.mem_st_7_40 (List.getElem_mem (l := Cert.KernelIdeal.GenP.hostOps7_40 (F := Ideal)) (n := 5) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part34 (List.getElem_mem (l := Cert.ReferenceIdeal.Hand.ops_part34 (F := Ideal)) (n := 40) (by decide))) rfl rfl (by decide) (hx := ⟨by decide, rfl⟩) (hy := ⟨by decide, rfl⟩)
  rw [hk, hr, ← c_main_v496__main_v1701 hag hel]

theorem c_main_v498__main_v1703 : StableHlo.after Cert.KernelIdeal.Hand.KOps (Cert.KernelIdeal.Hand.Wl (F := Ideal) m ρ c) (Proc.devRef .tc Cert.KernelIdeal.main_v498) = StableHlo.after (Cert.ReferenceIdeal.Hand.ops (F := Ideal)) (StableHlo.launchContents m' c) (Proc.devRef .tc Cert.ReferenceIdeal.main_v1703) := by
  have hk := StableHlo.Ascending.eq_unary Cert.KernelIdeal.Hand.KOps_asc (Cert.KernelIdeal.Hand.Wl m ρ c) (Cert.KernelIdeal.Hand.mem_KOps_st7 (Cert.KernelIdeal.Hand.mem_st_7_40 (List.getElem_mem (l := Cert.KernelIdeal.GenP.hostOps7_40 (F := Ideal)) (n := 6) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part34 (List.getElem_mem (l := Cert.ReferenceIdeal.Hand.ops_part34 (F := Ideal)) (n := 41) (by decide))) rfl rfl (by decide) (hx := ⟨by decide, rfl⟩) (hy := ⟨by decide, rfl⟩)
  rw [hk, hr, ← c_main_v497__main_v1702 hag hel]

theorem c_main_v499__main_v1704 : StableHlo.after Cert.KernelIdeal.Hand.KOps (Cert.KernelIdeal.Hand.Wl (F := Ideal) m ρ c) (Proc.devRef .tc Cert.KernelIdeal.main_v499) = StableHlo.after (Cert.ReferenceIdeal.Hand.ops (F := Ideal)) (StableHlo.launchContents m' c) (Proc.devRef .tc Cert.ReferenceIdeal.main_v1704) := by
  have hk := StableHlo.Ascending.eq_binary Cert.KernelIdeal.Hand.KOps_asc (Cert.KernelIdeal.Hand.Wl m ρ c) (Cert.KernelIdeal.Hand.mem_KOps_st7 (Cert.KernelIdeal.Hand.mem_st_7_40 (List.getElem_mem (l := Cert.KernelIdeal.GenP.hostOps7_40 (F := Ideal)) (n := 7) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part34 (List.getElem_mem (l := Cert.ReferenceIdeal.Hand.ops_part34 (F := Ideal)) (n := 42) (by decide))) rfl rfl rfl (by decide) (by decide) (ha := ⟨by decide, rfl⟩) (hb := ⟨by decide, rfl⟩) (hy := ⟨by decide, rfl⟩)
  rw [hk, hr, ← c_main_v493__main_v1698 hag hel, ← c_main_v498__main_v1703 hag hel]

theorem c_main_v500__main_v1705 : StableHlo.after Cert.KernelIdeal.Hand.KOps (Cert.KernelIdeal.Hand.Wl (F := Ideal) m ρ c) (Proc.devRef .tc Cert.KernelIdeal.main_v500) = StableHlo.after (Cert.ReferenceIdeal.Hand.ops (F := Ideal)) (StableHlo.launchContents m' c) (Proc.devRef .tc Cert.ReferenceIdeal.main_v1705) := by
  have hk := StableHlo.Ascending.eq_unary Cert.KernelIdeal.Hand.KOps_asc (Cert.KernelIdeal.Hand.Wl m ρ c) (Cert.KernelIdeal.Hand.mem_KOps_st7 (Cert.KernelIdeal.Hand.mem_st_7_40 (List.getElem_mem (l := Cert.KernelIdeal.GenP.hostOps7_40 (F := Ideal)) (n := 8) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part34 (List.getElem_mem (l := Cert.ReferenceIdeal.Hand.ops_part34 (F := Ideal)) (n := 43) (by decide))) rfl rfl (by decide) (hx := ⟨by decide, rfl⟩) (hy := ⟨by decide, rfl⟩)
  rw [hk, hr, ← c_main_v499__main_v1704 hag hel]

theorem c_main_cst_100__main_cst_368 : StableHlo.after Cert.KernelIdeal.Hand.KOps (Cert.KernelIdeal.Hand.Wl (F := Ideal) m ρ c) (Proc.devRef .tc Cert.KernelIdeal.main_cst_100) = StableHlo.after (Cert.ReferenceIdeal.Hand.ops (F := Ideal)) (StableHlo.launchContents m' c) (Proc.devRef .tc Cert.ReferenceIdeal.main_cst_368) := by
  have hk := StableHlo.Ascending.eq_nullary Cert.KernelIdeal.Hand.KOps_asc (Cert.KernelIdeal.Hand.Wl m ρ c) (Cert.KernelIdeal.Hand.mem_KOps_st7 (Cert.KernelIdeal.Hand.mem_st_7_40 (List.getElem_mem (l := Cert.KernelIdeal.GenP.hostOps7_40 (F := Ideal)) (n := 9) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part34 (List.getElem_mem (l := Cert.ReferenceIdeal.Hand.ops_part34 (F := Ideal)) (n := 44) (by decide))) rfl (hy := ⟨by decide, rfl⟩)
  rw [hk, hr]

theorem c_main_v501__main_v1706 : StableHlo.after Cert.KernelIdeal.Hand.KOps (Cert.KernelIdeal.Hand.Wl (F := Ideal) m ρ c) (Proc.devRef .tc Cert.KernelIdeal.main_v501) = StableHlo.after (Cert.ReferenceIdeal.Hand.ops (F := Ideal)) (StableHlo.launchContents m' c) (Proc.devRef .tc Cert.ReferenceIdeal.main_v1706) := by
  have hk := StableHlo.Ascending.eq_binary Cert.KernelIdeal.Hand.KOps_asc (Cert.KernelIdeal.Hand.Wl m ρ c) (Cert.KernelIdeal.Hand.mem_KOps_st7 (Cert.KernelIdeal.Hand.mem_st_7_40 (List.getElem_mem (l := Cert.KernelIdeal.GenP.hostOps7_40 (F := Ideal)) (n := 10) (by decide)))) rfl rfl rfl (by decide) (by decide) (a := Cert.KernelIdeal.main_v500) (b := Cert.KernelIdeal.main_cst_100) (y := Cert.KernelIdeal.main_v501) (f := open Cert.KernelIdeal Cert.KernelIdeal.Gen in (fun x v => Host.reduceAdd (F := Ideal) x v reducesTo_S2048x2048_S2048_d1 h_S_)) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part34 (List.getElem_mem (l := Cert.ReferenceIdeal.Hand.ops_part34 (F := Ideal)) (n := 45) (by decide))) rfl rfl rfl (by decide) (by decide) (a := Cert.ReferenceIdeal.main_v1705) (b := Cert.ReferenceIdeal.main_cst_368) (y := Cert.ReferenceIdeal.main_v1706) (f := open Cert.ReferenceIdeal Cert.ReferenceIdeal.Gen in (fun x v => Host.reduceAdd (F := Ideal) x v reducesTo_S2048x2048_S2048_d1 h_S_)) (ha := ⟨by decide, rfl⟩) (hb := ⟨by decide, rfl⟩) (hy := ⟨by decide, rfl⟩)
  rw [hk, hr, ← c_main_v500__main_v1705 hag hel, ← c_main_cst_100__main_cst_368 hag hel]

theorem c_main_v502__main_v1707 : StableHlo.after Cert.KernelIdeal.Hand.KOps (Cert.KernelIdeal.Hand.Wl (F := Ideal) m ρ c) (Proc.devRef .tc Cert.KernelIdeal.main_v502) = StableHlo.after (Cert.ReferenceIdeal.Hand.ops (F := Ideal)) (StableHlo.launchContents m' c) (Proc.devRef .tc Cert.ReferenceIdeal.main_v1707) := by
  have hk := StableHlo.Ascending.eq_unary Cert.KernelIdeal.Hand.KOps_asc (Cert.KernelIdeal.Hand.Wl m ρ c) (Cert.KernelIdeal.Hand.mem_KOps_st7 (Cert.KernelIdeal.Hand.mem_st_7_40 (List.getElem_mem (l := Cert.KernelIdeal.GenP.hostOps7_40 (F := Ideal)) (n := 11) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part34 (List.getElem_mem (l := Cert.ReferenceIdeal.Hand.ops_part34 (F := Ideal)) (n := 46) (by decide))) rfl rfl (by decide) (hx := ⟨by decide, rfl⟩) (hy := ⟨by decide, rfl⟩)
  rw [hk, hr, ← c_main_v501__main_v1706 hag hel]

theorem c_main_v503__main_v1708 : StableHlo.after Cert.KernelIdeal.Hand.KOps (Cert.KernelIdeal.Hand.Wl (F := Ideal) m ρ c) (Proc.devRef .tc Cert.KernelIdeal.main_v503) = StableHlo.after (Cert.ReferenceIdeal.Hand.ops (F := Ideal)) (StableHlo.launchContents m' c) (Proc.devRef .tc Cert.ReferenceIdeal.main_v1708) := by
  have hk := StableHlo.Ascending.eq_unary Cert.KernelIdeal.Hand.KOps_asc (Cert.KernelIdeal.Hand.Wl m ρ c) (Cert.KernelIdeal.Hand.mem_KOps_st7 (Cert.KernelIdeal.Hand.mem_st_7_40 (List.getElem_mem (l := Cert.KernelIdeal.GenP.hostOps7_40 (F := Ideal)) (n := 12) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part34 (List.getElem_mem (l := Cert.ReferenceIdeal.Hand.ops_part34 (F := Ideal)) (n := 47) (by decide))) rfl rfl (by decide) (hx := ⟨by decide, rfl⟩) (hy := ⟨by decide, rfl⟩)
  rw [hk, hr, ← c_main_v502__main_v1707 hag hel]

theorem c_main_v504__main_v1709 : StableHlo.after Cert.KernelIdeal.Hand.KOps (Cert.KernelIdeal.Hand.Wl (F := Ideal) m ρ c) (Proc.devRef .tc Cert.KernelIdeal.main_v504) = StableHlo.after (Cert.ReferenceIdeal.Hand.ops (F := Ideal)) (StableHlo.launchContents m' c) (Proc.devRef .tc Cert.ReferenceIdeal.main_v1709) := by
  have hk := StableHlo.Ascending.eq_binary Cert.KernelIdeal.Hand.KOps_asc (Cert.KernelIdeal.Hand.Wl m ρ c) (Cert.KernelIdeal.Hand.mem_KOps_st7 (Cert.KernelIdeal.Hand.mem_st_7_40 (List.getElem_mem (l := Cert.KernelIdeal.GenP.hostOps7_40 (F := Ideal)) (n := 13) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part34 (List.getElem_mem (l := Cert.ReferenceIdeal.Hand.ops_part34 (F := Ideal)) (n := 48) (by decide))) rfl rfl rfl (by decide) (by decide) (ha := ⟨by decide, rfl⟩) (hb := ⟨by decide, rfl⟩) (hy := ⟨by decide, rfl⟩)
  rw [hk, hr, ← c_main_v500__main_v1705 hag hel, ← c_main_v503__main_v1708 hag hel]

theorem c_main_v505__main_v1710 : StableHlo.after Cert.KernelIdeal.Hand.KOps (Cert.KernelIdeal.Hand.Wl (F := Ideal) m ρ c) (Proc.devRef .tc Cert.KernelIdeal.main_v505) = StableHlo.after (Cert.ReferenceIdeal.Hand.ops (F := Ideal)) (StableHlo.launchContents m' c) (Proc.devRef .tc Cert.ReferenceIdeal.main_v1710) := by
  have hk := StableHlo.Ascending.eq_unary Cert.KernelIdeal.Hand.KOps_asc (Cert.KernelIdeal.Hand.Wl m ρ c) (Cert.KernelIdeal.Hand.mem_KOps_st7 (Cert.KernelIdeal.Hand.mem_st_7_40 (List.getElem_mem (l := Cert.KernelIdeal.GenP.hostOps7_40 (F := Ideal)) (n := 14) (by decide)))) rfl rfl (by decide) (x := Cert.KernelIdeal.main_v504) (y := Cert.KernelIdeal.main_v505) (f := open Cert.KernelIdeal Cert.KernelIdeal.Gen in (transpose S2048x2048 [1, 0] · transposes_S2048x2048_S2048x2048_1_0)) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part34 (List.getElem_mem (l := Cert.ReferenceIdeal.Hand.ops_part34 (F := Ideal)) (n := 49) (by decide))) rfl rfl (by decide) (x := Cert.ReferenceIdeal.main_v1709) (y := Cert.ReferenceIdeal.main_v1710) (f := open Cert.ReferenceIdeal Cert.ReferenceIdeal.Gen in (transpose S2048x2048 [1, 0] · transposes_S2048x2048_S2048x2048_1_0)) (hx := ⟨by decide, rfl⟩) (hy := ⟨by decide, rfl⟩)
  rw [hk, hr, ← c_main_v504__main_v1709 hag hel]

theorem c_main_v506__main_v1711 : StableHlo.after Cert.KernelIdeal.Hand.KOps (Cert.KernelIdeal.Hand.Wl (F := Ideal) m ρ c) (Proc.devRef .tc Cert.KernelIdeal.main_v506) = StableHlo.after (Cert.ReferenceIdeal.Hand.ops (F := Ideal)) (StableHlo.launchContents m' c) (Proc.devRef .tc Cert.ReferenceIdeal.main_v1711) := by
  have hk := StableHlo.Ascending.eq_binary Cert.KernelIdeal.Hand.KOps_asc (Cert.KernelIdeal.Hand.Wl m ρ c) (Cert.KernelIdeal.Hand.mem_KOps_st7 (Cert.KernelIdeal.Hand.mem_st_7_40 (List.getElem_mem (l := Cert.KernelIdeal.GenP.hostOps7_40 (F := Ideal)) (n := 15) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part34 (List.getElem_mem (l := Cert.ReferenceIdeal.Hand.ops_part34 (F := Ideal)) (n := 50) (by decide))) rfl rfl rfl (by decide) (by decide) (ha := ⟨by decide, rfl⟩) (hb := ⟨by decide, rfl⟩) (hy := ⟨by decide, rfl⟩)
  rw [hk, hr, ← c_main_v505__main_v1710 hag hel, ← c_main_v466__main_v1671 hag hel]
  rfl

theorem c_main_call21_cst__main_call80_cst : StableHlo.after Cert.KernelIdeal.Hand.KOps (Cert.KernelIdeal.Hand.Wl (F := Ideal) m ρ c) (Proc.devRef .tc Cert.KernelIdeal.main_call21_cst) = StableHlo.after (Cert.ReferenceIdeal.Hand.ops (F := Ideal)) (StableHlo.launchContents m' c) (Proc.devRef .tc Cert.ReferenceIdeal.main_call80_cst) := by
  have hk := StableHlo.Ascending.eq_nullary Cert.KernelIdeal.Hand.KOps_asc (Cert.KernelIdeal.Hand.Wl m ρ c) (Cert.KernelIdeal.Hand.mem_KOps_st7 (Cert.KernelIdeal.Hand.mem_st_7_41 (List.getElem_mem (l := Cert.KernelIdeal.GenP.hostOps7_41 (F := Ideal)) (n := 0) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part34 (List.getElem_mem (l := Cert.ReferenceIdeal.Hand.ops_part34 (F := Ideal)) (n := 51) (by decide))) rfl (hy := ⟨by decide, rfl⟩)
  rw [hk, hr]

theorem c_main_call21_v0__main_call80_v0 : StableHlo.after Cert.KernelIdeal.Hand.KOps (Cert.KernelIdeal.Hand.Wl (F := Ideal) m ρ c) (Proc.devRef .tc Cert.KernelIdeal.main_call21_v0) = StableHlo.after (Cert.ReferenceIdeal.Hand.ops (F := Ideal)) (StableHlo.launchContents m' c) (Proc.devRef .tc Cert.ReferenceIdeal.main_call80_v0) := by
  have hk := StableHlo.Ascending.eq_unary Cert.KernelIdeal.Hand.KOps_asc (Cert.KernelIdeal.Hand.Wl m ρ c) (Cert.KernelIdeal.Hand.mem_KOps_st7 (Cert.KernelIdeal.Hand.mem_st_7_41 (List.getElem_mem (l := Cert.KernelIdeal.GenP.hostOps7_41 (F := Ideal)) (n := 1) (by decide)))) rfl rfl (by decide) (x := Cert.KernelIdeal.main_call21_cst) (y := Cert.KernelIdeal.main_call21_v0) (f := open Cert.KernelIdeal Cert.KernelIdeal.Gen in (broadcastInDim S2048x8 ![] bcast_S_S2048x8)) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part34 (List.getElem_mem (l := Cert.ReferenceIdeal.Hand.ops_part34 (F := Ideal)) (n := 52) (by decide))) rfl rfl (by decide) (x := Cert.ReferenceIdeal.main_call80_cst) (y := Cert.ReferenceIdeal.main_call80_v0) (f := open Cert.ReferenceIdeal Cert.ReferenceIdeal.Gen in (broadcastInDim S2048x8 ![] bcast_S_S2048x8)) (hx := ⟨by decide, rfl⟩) (hy := ⟨by decide, rfl⟩)
  rw [hk, hr, ← c_main_call21_cst__main_call80_cst hag hel]

theorem c_main_call21_v1__main_call80_v1 : StableHlo.after Cert.KernelIdeal.Hand.KOps (Cert.KernelIdeal.Hand.Wl (F := Ideal) m ρ c) (Proc.devRef .tc Cert.KernelIdeal.main_call21_v1) = StableHlo.after (Cert.ReferenceIdeal.Hand.ops (F := Ideal)) (StableHlo.launchContents m' c) (Proc.devRef .tc Cert.ReferenceIdeal.main_call80_v1) := by
  have hk := StableHlo.Ascending.eq_binary Cert.KernelIdeal.Hand.KOps_asc (Cert.KernelIdeal.Hand.Wl m ρ c) (Cert.KernelIdeal.Hand.mem_KOps_st7 (Cert.KernelIdeal.Hand.mem_st_7_41 (List.getElem_mem (l := Cert.KernelIdeal.GenP.hostOps7_41 (F := Ideal)) (n := 2) (by decide)))) rfl rfl rfl (by decide) (by decide) (a := Cert.KernelIdeal.main_v506) (b := Cert.KernelIdeal.main_call21_v0) (y := Cert.KernelIdeal.main_call21_v1) (f := open Cert.KernelIdeal Cert.KernelIdeal.Gen in (cmpf (F := Ideal) .ogt)) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part34 (List.getElem_mem (l := Cert.ReferenceIdeal.Hand.ops_part34 (F := Ideal)) (n := 53) (by decide))) rfl rfl rfl (by decide) (by decide) (a := Cert.ReferenceIdeal.main_v1711) (b := Cert.ReferenceIdeal.main_call80_v0) (y := Cert.ReferenceIdeal.main_call80_v1) (f := open Cert.ReferenceIdeal Cert.ReferenceIdeal.Gen in (cmpf (F := Ideal) .ogt)) (ha := ⟨by decide, rfl⟩) (hb := ⟨by decide, rfl⟩) (hy := ⟨by decide, rfl⟩)
  rw [hk, hr, ← c_main_v506__main_v1711 hag hel, ← c_main_call21_v0__main_call80_v0 hag hel]

end Cert.Value

end
-- ==== Proof.Val.C015.lean ====
/- Steps C015 of the value claim's chain: for each listed pair, the kernel program's buffer and its reference twin hold equal contents at the two programs' final
   valuations — the two operations are the same function (read off the two operation lists) of operands already paired. A table; written by: bun scratch/corr.js 60 -/
import proofs.«146970_j35948876268088_1_alg».proof.Proof.Val.Seed
import proofs.«146970_j35948876268088_1_alg».proof.Proof.KI.Dots
import Mathlib.Tactic.FinCases
import proofs.«146970_j35948876268088_1_alg».proof.Proof.Val.C000
import proofs.«146970_j35948876268088_1_alg».proof.Proof.Val.C001
import proofs.«146970_j35948876268088_1_alg».proof.Proof.Val.C006
import proofs.«146970_j35948876268088_1_alg».proof.Proof.Val.C013
import proofs.«146970_j35948876268088_1_alg».proof.Proof.Val.C014

set_option maxRecDepth 16384

noncomputable section

namespace Cert.Value

open Idealize.ShloMosaic Idealize.ShloMosaic.TcCoe Idealize.SL.Sem

variable {m : (ℓ : Loc Cert.KernelIdeal.nD Cert.KernelIdeal.τ Cert.KernelIdeal.sig) → Buf (Elt Ideal) ℓ} {ρ : Dev Cert.KernelIdeal.nD → PrngReg}
  {m' : (ℓ : Loc Cert.ReferenceIdeal.nD Cert.ReferenceIdeal.τ Cert.ReferenceIdeal.sig) → Buf (Elt Ideal) ℓ} {c : Dev Cert.KernelIdeal.nD} (hag : Agree m m') (hel : Els m' c)
include hag hel

theorem c_main_call21_cst_0__main_call80_cst_0 : StableHlo.after Cert.KernelIdeal.Hand.KOps (Cert.KernelIdeal.Hand.Wl (F := Ideal) m ρ c) (Proc.devRef .tc Cert.KernelIdeal.main_call21_cst_0) = StableHlo.after (Cert.ReferenceIdeal.Hand.ops (F := Ideal)) (StableHlo.launchContents m' c) (Proc.devRef .tc Cert.ReferenceIdeal.main_call80_cst_0) := by
  have hk := StableHlo.Ascending.eq_nullary Cert.KernelIdeal.Hand.KOps_asc (Cert.KernelIdeal.Hand.Wl m ρ c) (Cert.KernelIdeal.Hand.mem_KOps_st7 (Cert.KernelIdeal.Hand.mem_st_7_41 (List.getElem_mem (l := Cert.KernelIdeal.GenP.hostOps7_41 (F := Ideal)) (n := 3) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part34 (List.getElem_mem (l := Cert.ReferenceIdeal.Hand.ops_part34 (F := Ideal)) (n := 54) (by decide))) rfl (hy := ⟨by decide, rfl⟩)
  rw [hk, hr]

theorem c_main_call21_v2__main_call80_v2 : StableHlo.after Cert.KernelIdeal.Hand.KOps (Cert.KernelIdeal.Hand.Wl (F := Ideal) m ρ c) (Proc.devRef .tc Cert.KernelIdeal.main_call21_v2) = StableHlo.after (Cert.ReferenceIdeal.Hand.ops (F := Ideal)) (StableHlo.launchContents m' c) (Proc.devRef .tc Cert.ReferenceIdeal.main_call80_v2) := by
  have hk := StableHlo.Ascending.eq_unary Cert.KernelIdeal.Hand.KOps_asc (Cert.KernelIdeal.Hand.Wl m ρ c) (Cert.KernelIdeal.Hand.mem_KOps_st7 (Cert.KernelIdeal.Hand.mem_st_7_41 (List.getElem_mem (l := Cert.KernelIdeal.GenP.hostOps7_41 (F := Ideal)) (n := 4) (by decide)))) rfl rfl (by decide) (x := Cert.KernelIdeal.main_call21_cst_0) (y := Cert.KernelIdeal.main_call21_v2) (f := open Cert.KernelIdeal Cert.KernelIdeal.Gen in (broadcastInDim S2048x8 ![] bcast_S_S2048x8)) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part34 (List.getElem_mem (l := Cert.ReferenceIdeal.Hand.ops_part34 (F := Ideal)) (n := 55) (by decide))) rfl rfl (by decide) (x := Cert.ReferenceIdeal.main_call80_cst_0) (y := Cert.ReferenceIdeal.main_call80_v2) (f := open Cert.ReferenceIdeal Cert.ReferenceIdeal.Gen in (broadcastInDim S2048x8 ![] bcast_S_S2048x8)) (hx := ⟨by decide, rfl⟩) (hy := ⟨by decide, rfl⟩)
  rw [hk, hr, ← c_main_call21_cst_0__main_call80_cst_0 hag hel]

theorem c_main_call21_v3__main_call80_v3 : StableHlo.after Cert.KernelIdeal.Hand.KOps (Cert.KernelIdeal.Hand.Wl (F := Ideal) m ρ c) (Proc.devRef .tc Cert.KernelIdeal.main_call21_v3) = StableHlo.after (Cert.ReferenceIdeal.Hand.ops (F := Ideal)) (StableHlo.launchContents m' c) (Proc.devRef .tc Cert.ReferenceIdeal.main_call80_v3) := by
  have hk := StableHlo.Ascending.eq_binary Cert.KernelIdeal.Hand.KOps_asc (Cert.KernelIdeal.Hand.Wl m ρ c) (Cert.KernelIdeal.Hand.mem_KOps_st7 (Cert.KernelIdeal.Hand.mem_st_7_41 (List.getElem_mem (l := Cert.KernelIdeal.GenP.hostOps7_41 (F := Ideal)) (n := 5) (by decide)))) rfl rfl rfl (by decide) (by decide) (a := Cert.KernelIdeal.main_v506) (b := Cert.KernelIdeal.main_call21_v2) (y := Cert.KernelIdeal.main_call21_v3) (f := open Cert.KernelIdeal Cert.KernelIdeal.Gen in (cmpf (F := Ideal) .ogt)) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part34 (List.getElem_mem (l := Cert.ReferenceIdeal.Hand.ops_part34 (F := Ideal)) (n := 56) (by decide))) rfl rfl rfl (by decide) (by decide) (a := Cert.ReferenceIdeal.main_v1711) (b := Cert.ReferenceIdeal.main_call80_v2) (y := Cert.ReferenceIdeal.main_call80_v3) (f := open Cert.ReferenceIdeal Cert.ReferenceIdeal.Gen in (cmpf (F := Ideal) .ogt)) (ha := ⟨by decide, rfl⟩) (hb := ⟨by decide, rfl⟩) (hy := ⟨by decide, rfl⟩)
  rw [hk, hr, ← c_main_v506__main_v1711 hag hel, ← c_main_call21_v2__main_call80_v2 hag hel]

theorem c_main_call21_cst_1__main_call80_cst_1 : StableHlo.after Cert.KernelIdeal.Hand.KOps (Cert.KernelIdeal.Hand.Wl (F := Ideal) m ρ c) (Proc.devRef .tc Cert.KernelIdeal.main_call21_cst_1) = StableHlo.after (Cert.ReferenceIdeal.Hand.ops (F := Ideal)) (StableHlo.launchContents m' c) (Proc.devRef .tc Cert.ReferenceIdeal.main_call80_cst_1) := by
  have hk := StableHlo.Ascending.eq_nullary Cert.KernelIdeal.Hand.KOps_asc (Cert.KernelIdeal.Hand.Wl m ρ c) (Cert.KernelIdeal.Hand.mem_KOps_st7 (Cert.KernelIdeal.Hand.mem_st_7_41 (List.getElem_mem (l := Cert.KernelIdeal.GenP.hostOps7_41 (F := Ideal)) (n := 6) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part34 (List.getElem_mem (l := Cert.ReferenceIdeal.Hand.ops_part34 (F := Ideal)) (n := 57) (by decide))) rfl (hy := ⟨by decide, rfl⟩)
  rw [hk, hr]

theorem c_main_call21_call0_v0__main_call80_call0_v0 : StableHlo.after Cert.KernelIdeal.Hand.KOps (Cert.KernelIdeal.Hand.Wl (F := Ideal) m ρ c) (Proc.devRef .tc Cert.KernelIdeal.main_call21_call0_v0) = StableHlo.after (Cert.ReferenceIdeal.Hand.ops (F := Ideal)) (StableHlo.launchContents m' c) (Proc.devRef .tc Cert.ReferenceIdeal.main_call80_call0_v0) := by
  have hk := StableHlo.Ascending.eq_unary Cert.KernelIdeal.Hand.KOps_asc (Cert.KernelIdeal.Hand.Wl m ρ c) (Cert.KernelIdeal.Hand.mem_KOps_st7 (Cert.KernelIdeal.Hand.mem_st_7_41 (List.getElem_mem (l := Cert.KernelIdeal.GenP.hostOps7_41 (F := Ideal)) (n := 7) (by decide)))) rfl rfl (by decide) (x := Cert.KernelIdeal.main_call21_cst_1) (y := Cert.KernelIdeal.main_call21_call0_v0) (f := open Cert.KernelIdeal Cert.KernelIdeal.Gen in id) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part34 (List.getElem_mem (l := Cert.ReferenceIdeal.Hand.ops_part34 (F := Ideal)) (n := 58) (by decide))) rfl rfl (by decide) (x := Cert.ReferenceIdeal.main_call80_cst_1) (y := Cert.ReferenceIdeal.main_call80_call0_v0) (f := open Cert.ReferenceIdeal Cert.ReferenceIdeal.Gen in id) (hx := ⟨by decide, rfl⟩) (hy := ⟨by decide, rfl⟩)
  rw [hk, hr, ← c_main_call21_cst_1__main_call80_cst_1 hag hel]

theorem c_main_call21_call0_v1__main_call80_call0_v1 : StableHlo.after Cert.KernelIdeal.Hand.KOps (Cert.KernelIdeal.Hand.Wl (F := Ideal) m ρ c) (Proc.devRef .tc Cert.KernelIdeal.main_call21_call0_v1) = StableHlo.after (Cert.ReferenceIdeal.Hand.ops (F := Ideal)) (StableHlo.launchContents m' c) (Proc.devRef .tc Cert.ReferenceIdeal.main_call80_call0_v1) := by
  have hk := StableHlo.Ascending.eq_unary Cert.KernelIdeal.Hand.KOps_asc (Cert.KernelIdeal.Hand.Wl m ρ c) (Cert.KernelIdeal.Hand.mem_KOps_st7 (Cert.KernelIdeal.Hand.mem_st_7_41 (List.getElem_mem (l := Cert.KernelIdeal.GenP.hostOps7_41 (F := Ideal)) (n := 8) (by decide)))) rfl rfl (by decide) (x := Cert.KernelIdeal.main_call21_call0_v0) (y := Cert.KernelIdeal.main_call21_call0_v1) (f := open Cert.KernelIdeal Cert.KernelIdeal.Gen in (broadcastInDim S2048x8 ![] bcast_S_S2048x8)) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part34 (List.getElem_mem (l := Cert.ReferenceIdeal.Hand.ops_part34 (F := Ideal)) (n := 59) (by decide))) rfl rfl (by decide) (x := Cert.ReferenceIdeal.main_call80_call0_v0) (y := Cert.ReferenceIdeal.main_call80_call0_v1) (f := open Cert.ReferenceIdeal Cert.ReferenceIdeal.Gen in (broadcastInDim S2048x8 ![] bcast_S_S2048x8)) (hx := ⟨by decide, rfl⟩) (hy := ⟨by decide, rfl⟩)
  rw [hk, hr, ← c_main_call21_call0_v0__main_call80_call0_v0 hag hel]

theorem c_main_call21_v4__main_call80_v4 : StableHlo.after Cert.KernelIdeal.Hand.KOps (Cert.KernelIdeal.Hand.Wl (F := Ideal) m ρ c) (Proc.devRef .tc Cert.KernelIdeal.main_call21_v4) = StableHlo.after (Cert.ReferenceIdeal.Hand.ops (F := Ideal)) (StableHlo.launchContents m' c) (Proc.devRef .tc Cert.ReferenceIdeal.main_call80_v4) := by
  have hk := StableHlo.Ascending.eq_ternary Cert.KernelIdeal.Hand.KOps_asc (Cert.KernelIdeal.Hand.Wl m ρ c) (Cert.KernelIdeal.Hand.mem_KOps_st7 (Cert.KernelIdeal.Hand.mem_st_7_41 (List.getElem_mem (l := Cert.KernelIdeal.GenP.hostOps7_41 (F := Ideal)) (n := 9) (by decide)))) rfl rfl rfl rfl (by decide) (by decide) (by decide) (c := Cert.KernelIdeal.main_call21_v3) (a := Cert.KernelIdeal.main_call21_call0_v1) (b := Cert.KernelIdeal.main_v506) (y := Cert.KernelIdeal.main_call21_v4) (f := (select : (⟨Cert.KernelIdeal.S2048x8, .i1⟩ : BufTy).Contents (Elt Ideal) → (⟨Cert.KernelIdeal.S2048x8, .f32⟩ : BufTy).Contents (Elt Ideal) → (⟨Cert.KernelIdeal.S2048x8, .f32⟩ : BufTy).Contents (Elt Ideal) → (⟨Cert.KernelIdeal.S2048x8, .f32⟩ : BufTy).Contents (Elt Ideal))) (hc := ⟨by decide, rfl⟩) (ha := ⟨by decide, rfl⟩) (hb := ⟨by decide, rfl⟩) (hy := ⟨by decide, rfl⟩)
  have hr := StableHlo.Ascending.eq_ternary (Cert.ReferenceIdeal.Hand.ops_asc (F := Ideal)) (StableHlo.launchContents m' c) (Cert.ReferenceIdeal.Hand.mem_ops_part34 (List.getElem_mem (l := Cert.ReferenceIdeal.Hand.ops_part34 (F := Ideal)) (n := 60) (by decide))) rfl rfl rfl rfl (by decide) (by decide) (by decide) (c := Cert.ReferenceIdeal.main_call80_v3) (a := Cert.ReferenceIdeal.main_call80_call0_v1) (b := Cert.ReferenceIdeal.main_v1711) (y := Cert.ReferenceIdeal.main_call80_v4) (f := (select : (⟨Cert.ReferenceIdeal.S2048x8, .i1⟩ : BufTy).Contents (Elt Ideal) → (⟨Cert.ReferenceIdeal.S2048x8, .f32⟩ : BufTy).Contents (Elt Ideal) → (⟨Cert.ReferenceIdeal.S2048x8, .f32⟩ : BufTy).Contents (Elt Ideal) → (⟨Cert.ReferenceIdeal.S2048x8, .f32⟩ : BufTy).Contents (Elt Ideal))) (hc := ⟨by decide, rfl⟩) (ha := ⟨by decide, rfl⟩) (hb := ⟨by decide, rfl⟩) (hy := ⟨by decide, rfl⟩)
  rw [hk, hr, ← c_main_call21_v3__main_call80_v3 hag hel, ← c_main_call21_call0_v1__main_call80_call0_v1 hag hel, ← c_main_v506__main_v1711 hag hel]

theorem c_main_call21_v5__main_call80_v5 : StableHlo.after Cert.KernelIdeal.Hand.KOps (Cert.KernelIdeal.Hand.Wl (F := Ideal) m ρ c) (Proc.devRef .tc Cert.KernelIdeal.main_call21_v5) = StableHlo.after (Cert.ReferenceIdeal.Hand.ops (F := Ideal)) (StableHlo.launchContents m' c) (Proc.devRef .tc Cert.ReferenceIdeal.main_call80_v5) := by
  have hk := StableHlo.Ascending.eq_unary Cert.KernelIdeal.Hand.KOps_asc (Cert.KernelIdeal.Hand.Wl m ρ c) (Cert.KernelIdeal.Hand.mem_KOps_st7 (Cert.KernelIdeal.Hand.mem_st_7_41 (List.getElem_mem (l := Cert.KernelIdeal.GenP.hostOps7_41 (F := Ideal)) (n := 10) (by decide)))) rfl rfl (by decide) (x := Cert.KernelIdeal.main_call21_v4) (y := Cert.KernelIdeal.main_call21_v5) (f := open Cert.KernelIdeal Cert.KernelIdeal.Gen in Host.expm1 (F := Ideal)) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part34 (List.getElem_mem (l := Cert.ReferenceIdeal.Hand.ops_part34 (F := Ideal)) (n := 61) (by decide))) rfl rfl (by decide) (x := Cert.ReferenceIdeal.main_call80_v4) (y := Cert.ReferenceIdeal.main_call80_v5) (f := open Cert.ReferenceIdeal Cert.ReferenceIdeal.Gen in Host.expm1 (F := Ideal)) (hx := ⟨by decide, rfl⟩) (hy := ⟨by decide, rfl⟩)
  rw [hk, hr, ← c_main_call21_v4__main_call80_v4 hag hel]

theorem c_main_call21_cst_2__main_call80_cst_2 : StableHlo.after Cert.KernelIdeal.Hand.KOps (Cert.KernelIdeal.Hand.Wl (F := Ideal) m ρ c) (Proc.devRef .tc Cert.KernelIdeal.main_call21_cst_2) = StableHlo.after (Cert.ReferenceIdeal.Hand.ops (F := Ideal)) (StableHlo.launchContents m' c) (Proc.devRef .tc Cert.ReferenceIdeal.main_call80_cst_2) := by
  have hk := StableHlo.Ascending.eq_nullary Cert.KernelIdeal.Hand.KOps_asc (Cert.KernelIdeal.Hand.Wl m ρ c) (Cert.KernelIdeal.Hand.mem_KOps_st7 (Cert.KernelIdeal.Hand.mem_st_7_41 (List.getElem_mem (l := Cert.KernelIdeal.GenP.hostOps7_41 (F := Ideal)) (n := 11) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part34 (List.getElem_mem (l := Cert.ReferenceIdeal.Hand.ops_part34 (F := Ideal)) (n := 62) (by decide))) rfl (hy := ⟨by decide, rfl⟩)
  rw [hk, hr]

theorem c_main_call21_v6__main_call80_v6 : StableHlo.after Cert.KernelIdeal.Hand.KOps (Cert.KernelIdeal.Hand.Wl (F := Ideal) m ρ c) (Proc.devRef .tc Cert.KernelIdeal.main_call21_v6) = StableHlo.after (Cert.ReferenceIdeal.Hand.ops (F := Ideal)) (StableHlo.launchContents m' c) (Proc.devRef .tc Cert.ReferenceIdeal.main_call80_v6) := by
  have hk := StableHlo.Ascending.eq_unary Cert.KernelIdeal.Hand.KOps_asc (Cert.KernelIdeal.Hand.Wl m ρ c) (Cert.KernelIdeal.Hand.mem_KOps_st7 (Cert.KernelIdeal.Hand.mem_st_7_41 (List.getElem_mem (l := Cert.KernelIdeal.GenP.hostOps7_41 (F := Ideal)) (n := 12) (by decide)))) rfl rfl (by decide) (x := Cert.KernelIdeal.main_call21_cst_2) (y := Cert.KernelIdeal.main_call21_v6) (f := open Cert.KernelIdeal Cert.KernelIdeal.Gen in (broadcastInDim S2048x8 ![] bcast_S_S2048x8)) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part34 (List.getElem_mem (l := Cert.ReferenceIdeal.Hand.ops_part34 (F := Ideal)) (n := 63) (by decide))) rfl rfl (by decide) (x := Cert.ReferenceIdeal.main_call80_cst_2) (y := Cert.ReferenceIdeal.main_call80_v6) (f := open Cert.ReferenceIdeal Cert.ReferenceIdeal.Gen in (broadcastInDim S2048x8 ![] bcast_S_S2048x8)) (hx := ⟨by decide, rfl⟩) (hy := ⟨by decide, rfl⟩)
  rw [hk, hr, ← c_main_call21_cst_2__main_call80_cst_2 hag hel]

theorem c_main_call21_v7__main_call80_v7 : StableHlo.after Cert.KernelIdeal.Hand.KOps (Cert.KernelIdeal.Hand.Wl (F := Ideal) m ρ c) (Proc.devRef .tc Cert.KernelIdeal.main_call21_v7) = StableHlo.after (Cert.ReferenceIdeal.Hand.ops (F := Ideal)) (StableHlo.launchContents m' c) (Proc.devRef .tc Cert.ReferenceIdeal.main_call80_v7) := by
  have hk := StableHlo.Ascending.eq_binary Cert.KernelIdeal.Hand.KOps_asc (Cert.KernelIdeal.Hand.Wl m ρ c) (Cert.KernelIdeal.Hand.mem_KOps_st7 (Cert.KernelIdeal.Hand.mem_st_7_41 (List.getElem_mem (l := Cert.KernelIdeal.GenP.hostOps7_41 (F := Ideal)) (n := 13) (by decide)))) rfl rfl rfl (by decide) (by decide) (a := Cert.KernelIdeal.main_call21_v6) (b := Cert.KernelIdeal.main_call21_v5) (y := Cert.KernelIdeal.main_call21_v7) (f := open Cert.KernelIdeal Cert.KernelIdeal.Gen in mulf (F := Ideal)) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part34 (List.getElem_mem (l := Cert.ReferenceIdeal.Hand.ops_part34 (F := Ideal)) (n := 64) (by decide))) rfl rfl rfl (by decide) (by decide) (a := Cert.ReferenceIdeal.main_call80_v6) (b := Cert.ReferenceIdeal.main_call80_v5) (y := Cert.ReferenceIdeal.main_call80_v7) (f := open Cert.ReferenceIdeal Cert.ReferenceIdeal.Gen in mulf (F := Ideal)) (ha := ⟨by decide, rfl⟩) (hb := ⟨by decide, rfl⟩) (hy := ⟨by decide, rfl⟩)
  rw [hk, hr, ← c_main_call21_v6__main_call80_v6 hag hel, ← c_main_call21_v5__main_call80_v5 hag hel]

theorem c_main_v507__main_v1712 : StableHlo.after Cert.KernelIdeal.Hand.KOps (Cert.KernelIdeal.Hand.Wl (F := Ideal) m ρ c) (Proc.devRef .tc Cert.KernelIdeal.main_v507) = StableHlo.after (Cert.ReferenceIdeal.Hand.ops (F := Ideal)) (StableHlo.launchContents m' c) (Proc.devRef .tc Cert.ReferenceIdeal.main_v1712) := by
  have hk := StableHlo.Ascending.eq_ternary Cert.KernelIdeal.Hand.KOps_asc (Cert.KernelIdeal.Hand.Wl m ρ c) (Cert.KernelIdeal.Hand.mem_KOps_st7 (Cert.KernelIdeal.Hand.mem_st_7_41 (List.getElem_mem (l := Cert.KernelIdeal.GenP.hostOps7_41 (F := Ideal)) (n := 14) (by decide)))) rfl rfl rfl rfl (by decide) (by decide) (by decide) (c := Cert.KernelIdeal.main_call21_v1) (a := Cert.KernelIdeal.main_v506) (b := Cert.KernelIdeal.main_call21_v7) (y := Cert.KernelIdeal.main_v507) (f := (select : (⟨Cert.KernelIdeal.S2048x8, .i1⟩ : BufTy).Contents (Elt Ideal) → (⟨Cert.KernelIdeal.S2048x8, .f32⟩ : BufTy).Contents (Elt Ideal) → (⟨Cert.KernelIdeal.S2048x8, .f32⟩ : BufTy).Contents (Elt Ideal) → (⟨Cert.KernelIdeal.S2048x8, .f32⟩ : BufTy).Contents (Elt Ideal))) (hc := ⟨by decide, rfl⟩) (ha := ⟨by decide, rfl⟩) (hb := ⟨by decide, rfl⟩) (hy := ⟨by decide, rfl⟩)
  have hr := StableHlo.Ascending.eq_ternary (Cert.ReferenceIdeal.Hand.ops_asc (F := Ideal)) (StableHlo.launchContents m' c) (Cert.ReferenceIdeal.Hand.mem_ops_part34 (List.getElem_mem (l := Cert.ReferenceIdeal.Hand.ops_part34 (F := Ideal)) (n := 65) (by decide))) rfl rfl rfl rfl (by decide) (by decide) (by decide) (c := Cert.ReferenceIdeal.main_call80_v1) (a := Cert.ReferenceIdeal.main_v1711) (b := Cert.ReferenceIdeal.main_call80_v7) (y := Cert.ReferenceIdeal.main_v1712) (f := (select : (⟨Cert.ReferenceIdeal.S2048x8, .i1⟩ : BufTy).Contents (Elt Ideal) → (⟨Cert.ReferenceIdeal.S2048x8, .f32⟩ : BufTy).Contents (Elt Ideal) → (⟨Cert.ReferenceIdeal.S2048x8, .f32⟩ : BufTy).Contents (Elt Ideal) → (⟨Cert.ReferenceIdeal.S2048x8, .f32⟩ : BufTy).Contents (Elt Ideal))) (hc := ⟨by decide, rfl⟩) (ha := ⟨by decide, rfl⟩) (hb := ⟨by decide, rfl⟩) (hy := ⟨by decide, rfl⟩)
  rw [hk, hr, ← c_main_call21_v1__main_call80_v1 hag hel, ← c_main_v506__main_v1711 hag hel, ← c_main_call21_v7__main_call80_v7 hag hel]

theorem c_main_v508__main_v1714 : StableHlo.after Cert.KernelIdeal.Hand.KOps (Cert.KernelIdeal.Hand.Wl (F := Ideal) m ρ c) (Proc.devRef .tc Cert.KernelIdeal.main_v508) = StableHlo.after (Cert.ReferenceIdeal.Hand.ops (F := Ideal)) (StableHlo.launchContents m' c) (Proc.devRef .tc Cert.ReferenceIdeal.main_v1714) := by
  have hk := StableHlo.Ascending.eq_binary Cert.KernelIdeal.Hand.KOps_asc (Cert.KernelIdeal.Hand.Wl m ρ c) (Cert.KernelIdeal.Hand.mem_KOps_st7 (Cert.KernelIdeal.Hand.mem_st_7_42 (List.getElem_mem (l := Cert.KernelIdeal.GenP.hostOps7_42 (F := Ideal)) (n := 0) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part34 (List.getElem_mem (l := Cert.ReferenceIdeal.Hand.ops_part34 (F := Ideal)) (n := 67) (by decide))) rfl rfl rfl (by decide) (by decide) (ha := ⟨by decide, rfl⟩) (hb := ⟨by decide, rfl⟩) (hy := ⟨by decide, rfl⟩)
  rw [hk, hr, ← c_main_v38__main_v137 hag hel, ← c_main_v465__main_v1634 hag hel]
  rfl

theorem c_main_v509__main_v1715 : StableHlo.after Cert.KernelIdeal.Hand.KOps (Cert.KernelIdeal.Hand.Wl (F := Ideal) m ρ c) (Proc.devRef .tc Cert.KernelIdeal.main_v509) = StableHlo.after (Cert.ReferenceIdeal.Hand.ops (F := Ideal)) (StableHlo.launchContents m' c) (Proc.devRef .tc Cert.ReferenceIdeal.main_v1715) := by
  have hk := StableHlo.Ascending.eq_binary Cert.KernelIdeal.Hand.KOps_asc (Cert.KernelIdeal.Hand.Wl m ρ c) (Cert.KernelIdeal.Hand.mem_KOps_st7 (Cert.KernelIdeal.Hand.mem_st_7_42 (List.getElem_mem (l := Cert.KernelIdeal.GenP.hostOps7_42 (F := Ideal)) (n := 1) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part34 (List.getElem_mem (l := Cert.ReferenceIdeal.Hand.ops_part34 (F := Ideal)) (n := 68) (by decide))) rfl rfl rfl (by decide) (by decide) (ha := ⟨by decide, rfl⟩) (hb := ⟨by decide, rfl⟩) (hy := ⟨by decide, rfl⟩)
  rw [hk, hr, ← c_main_v45__main_v144 hag hel, ← c_main_v465__main_v1634 hag hel]
  rfl

theorem c_main_v510__main_v1716 : StableHlo.after Cert.KernelIdeal.Hand.KOps (Cert.KernelIdeal.Hand.Wl (F := Ideal) m ρ c) (Proc.devRef .tc Cert.KernelIdeal.main_v510) = StableHlo.after (Cert.ReferenceIdeal.Hand.ops (F := Ideal)) (StableHlo.launchContents m' c) (Proc.devRef .tc Cert.ReferenceIdeal.main_v1716) := by
  have hk := StableHlo.Ascending.eq_unary Cert.KernelIdeal.Hand.KOps_asc (Cert.KernelIdeal.Hand.Wl m ρ c) (Cert.KernelIdeal.Hand.mem_KOps_st7 (Cert.KernelIdeal.Hand.mem_st_7_42 (List.getElem_mem (l := Cert.KernelIdeal.GenP.hostOps7_42 (F := Ideal)) (n := 2) (by decide)))) rfl rfl (by decide) (x := Cert.KernelIdeal.main_v463) (y := Cert.KernelIdeal.main_v510) (f := open Cert.KernelIdeal Cert.KernelIdeal.Gen in (extractStridedSlice S8x1 ![0, 0] · slices_S16x1_S8x1_0_0)) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part34 (List.getElem_mem (l := Cert.ReferenceIdeal.Hand.ops_part34 (F := Ideal)) (n := 69) (by decide))) rfl rfl (by decide) (x := Cert.ReferenceIdeal.main_v1632) (y := Cert.ReferenceIdeal.main_v1716) (f := open Cert.ReferenceIdeal Cert.ReferenceIdeal.Gen in (extractStridedSlice S8x1 ![0, 0] · slices_S16x1_S8x1_0_0)) (hx := ⟨by decide, rfl⟩) (hy := ⟨by decide, rfl⟩)
  rw [hk, hr, ← c_main_v463__main_v1632 hag hel]

theorem c_main_v511__main_v1717 : StableHlo.after Cert.KernelIdeal.Hand.KOps (Cert.KernelIdeal.Hand.Wl (F := Ideal) m ρ c) (Proc.devRef .tc Cert.KernelIdeal.main_v511) = StableHlo.after (Cert.ReferenceIdeal.Hand.ops (F := Ideal)) (StableHlo.launchContents m' c) (Proc.devRef .tc Cert.ReferenceIdeal.main_v1717) := by
  have hk := StableHlo.Ascending.eq_binary Cert.KernelIdeal.Hand.KOps_asc (Cert.KernelIdeal.Hand.Wl m ρ c) (Cert.KernelIdeal.Hand.mem_KOps_st7 (Cert.KernelIdeal.Hand.mem_st_7_42 (List.getElem_mem (l := Cert.KernelIdeal.GenP.hostOps7_42 (F := Ideal)) (n := 3) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part34 (List.getElem_mem (l := Cert.ReferenceIdeal.Hand.ops_part34 (F := Ideal)) (n := 70) (by decide))) rfl rfl rfl (by decide) (by decide) (ha := ⟨by decide, rfl⟩) (hb := ⟨by decide, rfl⟩) (hy := ⟨by decide, rfl⟩)
  rw [hk, hr, ← c_main_v508__main_v1714 hag hel, ← c_main_v510__main_v1716 hag hel]
  rfl

theorem c_main_v512__main_v1718 : StableHlo.after Cert.KernelIdeal.Hand.KOps (Cert.KernelIdeal.Hand.Wl (F := Ideal) m ρ c) (Proc.devRef .tc Cert.KernelIdeal.main_v512) = StableHlo.after (Cert.ReferenceIdeal.Hand.ops (F := Ideal)) (StableHlo.launchContents m' c) (Proc.devRef .tc Cert.ReferenceIdeal.main_v1718) := by
  have hk := StableHlo.Ascending.eq_unary Cert.KernelIdeal.Hand.KOps_asc (Cert.KernelIdeal.Hand.Wl m ρ c) (Cert.KernelIdeal.Hand.mem_KOps_st7 (Cert.KernelIdeal.Hand.mem_st_7_42 (List.getElem_mem (l := Cert.KernelIdeal.GenP.hostOps7_42 (F := Ideal)) (n := 4) (by decide)))) rfl rfl (by decide) (x := Cert.KernelIdeal.main_v463) (y := Cert.KernelIdeal.main_v512) (f := open Cert.KernelIdeal Cert.KernelIdeal.Gen in (extractStridedSlice S8x1 ![8, 0] · slices_S16x1_S8x1_8_0)) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part34 (List.getElem_mem (l := Cert.ReferenceIdeal.Hand.ops_part34 (F := Ideal)) (n := 71) (by decide))) rfl rfl (by decide) (x := Cert.ReferenceIdeal.main_v1632) (y := Cert.ReferenceIdeal.main_v1718) (f := open Cert.ReferenceIdeal Cert.ReferenceIdeal.Gen in (extractStridedSlice S8x1 ![8, 0] · slices_S16x1_S8x1_8_0)) (hx := ⟨by decide, rfl⟩) (hy := ⟨by decide, rfl⟩)
  rw [hk, hr, ← c_main_v463__main_v1632 hag hel]

theorem c_main_v513__main_v1719 : StableHlo.after Cert.KernelIdeal.Hand.KOps (Cert.KernelIdeal.Hand.Wl (F := Ideal) m ρ c) (Proc.devRef .tc Cert.KernelIdeal.main_v513) = StableHlo.after (Cert.ReferenceIdeal.Hand.ops (F := Ideal)) (StableHlo.launchContents m' c) (Proc.devRef .tc Cert.ReferenceIdeal.main_v1719) := by
  have hk := StableHlo.Ascending.eq_binary Cert.KernelIdeal.Hand.KOps_asc (Cert.KernelIdeal.Hand.Wl m ρ c) (Cert.KernelIdeal.Hand.mem_KOps_st7 (Cert.KernelIdeal.Hand.mem_st_7_42 (List.getElem_mem (l := Cert.KernelIdeal.GenP.hostOps7_42 (F := Ideal)) (n := 5) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part34 (List.getElem_mem (l := Cert.ReferenceIdeal.Hand.ops_part34 (F := Ideal)) (n := 72) (by decide))) rfl rfl rfl (by decide) (by decide) (ha := ⟨by decide, rfl⟩) (hb := ⟨by decide, rfl⟩) (hy := ⟨by decide, rfl⟩)
  rw [hk, hr, ← c_main_v509__main_v1715 hag hel, ← c_main_v512__main_v1718 hag hel]
  rfl

theorem c_main_v514__main_v1720 : StableHlo.after Cert.KernelIdeal.Hand.KOps (Cert.KernelIdeal.Hand.Wl (F := Ideal) m ρ c) (Proc.devRef .tc Cert.KernelIdeal.main_v514) = StableHlo.after (Cert.ReferenceIdeal.Hand.ops (F := Ideal)) (StableHlo.launchContents m' c) (Proc.devRef .tc Cert.ReferenceIdeal.main_v1720) := by
  have hk := StableHlo.Ascending.eq_unary Cert.KernelIdeal.Hand.KOps_asc (Cert.KernelIdeal.Hand.Wl m ρ c) (Cert.KernelIdeal.Hand.mem_KOps_st7 (Cert.KernelIdeal.Hand.mem_st_7_42 (List.getElem_mem (l := Cert.KernelIdeal.GenP.hostOps7_42 (F := Ideal)) (n := 6) (by decide)))) rfl rfl (by decide) (x := Cert.KernelIdeal.main_v513) (y := Cert.KernelIdeal.main_v514) (f := open Cert.KernelIdeal Cert.KernelIdeal.Gen in (transpose S1x2048 [1, 0] · transposes_S2048x1_S1x2048_1_0)) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part34 (List.getElem_mem (l := Cert.ReferenceIdeal.Hand.ops_part34 (F := Ideal)) (n := 73) (by decide))) rfl rfl (by decide) (x := Cert.ReferenceIdeal.main_v1719) (y := Cert.ReferenceIdeal.main_v1720) (f := open Cert.ReferenceIdeal Cert.ReferenceIdeal.Gen in (transpose S1x2048 [1, 0] · transposes_S2048x1_S1x2048_1_0)) (hx := ⟨by decide, rfl⟩) (hy := ⟨by decide, rfl⟩)
  rw [hk, hr, ← c_main_v513__main_v1719 hag hel]

theorem c_main_v515__main_v1721 : StableHlo.after Cert.KernelIdeal.Hand.KOps (Cert.KernelIdeal.Hand.Wl (F := Ideal) m ρ c) (Proc.devRef .tc Cert.KernelIdeal.main_v515) = StableHlo.after (Cert.ReferenceIdeal.Hand.ops (F := Ideal)) (StableHlo.launchContents m' c) (Proc.devRef .tc Cert.ReferenceIdeal.main_v1721) := by
  have hk := StableHlo.Ascending.eq_unary Cert.KernelIdeal.Hand.KOps_asc (Cert.KernelIdeal.Hand.Wl m ρ c) (Cert.KernelIdeal.Hand.mem_KOps_st7 (Cert.KernelIdeal.Hand.mem_st_7_42 (List.getElem_mem (l := Cert.KernelIdeal.GenP.hostOps7_42 (F := Ideal)) (n := 7) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part34 (List.getElem_mem (l := Cert.ReferenceIdeal.Hand.ops_part34 (F := Ideal)) (n := 74) (by decide))) rfl rfl (by decide) (hx := ⟨by decide, rfl⟩) (hy := ⟨by decide, rfl⟩)
  rw [hk, hr, ← c_main_v511__main_v1717 hag hel]

theorem c_main_v516__main_v1722 : StableHlo.after Cert.KernelIdeal.Hand.KOps (Cert.KernelIdeal.Hand.Wl (F := Ideal) m ρ c) (Proc.devRef .tc Cert.KernelIdeal.main_v516) = StableHlo.after (Cert.ReferenceIdeal.Hand.ops (F := Ideal)) (StableHlo.launchContents m' c) (Proc.devRef .tc Cert.ReferenceIdeal.main_v1722) := by
  have hk := StableHlo.Ascending.eq_unary Cert.KernelIdeal.Hand.KOps_asc (Cert.KernelIdeal.Hand.Wl m ρ c) (Cert.KernelIdeal.Hand.mem_KOps_st7 (Cert.KernelIdeal.Hand.mem_st_7_42 (List.getElem_mem (l := Cert.KernelIdeal.GenP.hostOps7_42 (F := Ideal)) (n := 8) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part34 (List.getElem_mem (l := Cert.ReferenceIdeal.Hand.ops_part34 (F := Ideal)) (n := 75) (by decide))) rfl rfl (by decide) (hx := ⟨by decide, rfl⟩) (hy := ⟨by decide, rfl⟩)
  rw [hk, hr, ← c_main_v514__main_v1720 hag hel]

theorem c_main_v517__main_v1723 : StableHlo.after Cert.KernelIdeal.Hand.KOps (Cert.KernelIdeal.Hand.Wl (F := Ideal) m ρ c) (Proc.devRef .tc Cert.KernelIdeal.main_v517) = StableHlo.after (Cert.ReferenceIdeal.Hand.ops (F := Ideal)) (StableHlo.launchContents m' c) (Proc.devRef .tc Cert.ReferenceIdeal.main_v1723) := by
  have hk := StableHlo.Ascending.eq_binary Cert.KernelIdeal.Hand.KOps_asc (Cert.KernelIdeal.Hand.Wl m ρ c) (Cert.KernelIdeal.Hand.mem_KOps_st7 (Cert.KernelIdeal.Hand.mem_st_7_42 (List.getElem_mem (l := Cert.KernelIdeal.GenP.hostOps7_42 (F := Ideal)) (n := 9) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part34 (List.getElem_mem (l := Cert.ReferenceIdeal.Hand.ops_part34 (F := Ideal)) (n := 76) (by decide))) rfl rfl rfl (by decide) (by decide) (ha := ⟨by decide, rfl⟩) (hb := ⟨by decide, rfl⟩) (hy := ⟨by decide, rfl⟩)
  rw [hk, hr, ← c_main_v515__main_v1721 hag hel, ← c_main_v516__main_v1722 hag hel]

theorem c_main_cst_101__main_cst_369 : StableHlo.after Cert.KernelIdeal.Hand.KOps (Cert.KernelIdeal.Hand.Wl (F := Ideal) m ρ c) (Proc.devRef .tc Cert.KernelIdeal.main_cst_101) = StableHlo.after (Cert.ReferenceIdeal.Hand.ops (F := Ideal)) (StableHlo.launchContents m' c) (Proc.devRef .tc Cert.ReferenceIdeal.main_cst_369) := by
  have hk := StableHlo.Ascending.eq_nullary Cert.KernelIdeal.Hand.KOps_asc (Cert.KernelIdeal.Hand.Wl m ρ c) (Cert.KernelIdeal.Hand.mem_KOps_st7 (Cert.KernelIdeal.Hand.mem_st_7_42 (List.getElem_mem (l := Cert.KernelIdeal.GenP.hostOps7_42 (F := Ideal)) (n := 10) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part34 (List.getElem_mem (l := Cert.ReferenceIdeal.Hand.ops_part34 (F := Ideal)) (n := 77) (by decide))) rfl (hy := ⟨by decide, rfl⟩)
  rw [hk, hr]

theorem c_main_call22_cst__main_call81_cst : StableHlo.after Cert.KernelIdeal.Hand.KOps (Cert.KernelIdeal.Hand.Wl (F := Ideal) m ρ c) (Proc.devRef .tc Cert.KernelIdeal.main_call22_cst) = StableHlo.after (Cert.ReferenceIdeal.Hand.ops (F := Ideal)) (StableHlo.launchContents m' c) (Proc.devRef .tc Cert.ReferenceIdeal.main_call81_cst) := by
  have hk := StableHlo.Ascending.eq_nullary Cert.KernelIdeal.Hand.KOps_asc (Cert.KernelIdeal.Hand.Wl m ρ c) (Cert.KernelIdeal.Hand.mem_KOps_st7 (Cert.KernelIdeal.Hand.mem_st_7_43 (List.getElem_mem (l := Cert.KernelIdeal.GenP.hostOps7_43 (F := Ideal)) (n := 0) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part34 (List.getElem_mem (l := Cert.ReferenceIdeal.Hand.ops_part34 (F := Ideal)) (n := 78) (by decide))) rfl (hy := ⟨by decide, rfl⟩)
  rw [hk, hr]

theorem c_main_call22_v0__main_call81_v0 : StableHlo.after Cert.KernelIdeal.Hand.KOps (Cert.KernelIdeal.Hand.Wl (F := Ideal) m ρ c) (Proc.devRef .tc Cert.KernelIdeal.main_call22_v0) = StableHlo.after (Cert.ReferenceIdeal.Hand.ops (F := Ideal)) (StableHlo.launchContents m' c) (Proc.devRef .tc Cert.ReferenceIdeal.main_call81_v0) := by
  have hk := StableHlo.Ascending.eq_unary Cert.KernelIdeal.Hand.KOps_asc (Cert.KernelIdeal.Hand.Wl m ρ c) (Cert.KernelIdeal.Hand.mem_KOps_st7 (Cert.KernelIdeal.Hand.mem_st_7_43 (List.getElem_mem (l := Cert.KernelIdeal.GenP.hostOps7_43 (F := Ideal)) (n := 1) (by decide)))) rfl rfl (by decide) (x := Cert.KernelIdeal.main_call22_cst) (y := Cert.KernelIdeal.main_call22_v0) (f := open Cert.KernelIdeal Cert.KernelIdeal.Gen in (broadcastInDim S2048x2048 ![] bcast_S_S2048x2048)) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part34 (List.getElem_mem (l := Cert.ReferenceIdeal.Hand.ops_part34 (F := Ideal)) (n := 79) (by decide))) rfl rfl (by decide) (x := Cert.ReferenceIdeal.main_call81_cst) (y := Cert.ReferenceIdeal.main_call81_v0) (f := open Cert.ReferenceIdeal Cert.ReferenceIdeal.Gen in (broadcastInDim S2048x2048 ![] bcast_S_S2048x2048)) (hx := ⟨by decide, rfl⟩) (hy := ⟨by decide, rfl⟩)
  rw [hk, hr, ← c_main_call22_cst__main_call81_cst hag hel]

theorem c_main_call22_v1__main_call81_v1 : StableHlo.after Cert.KernelIdeal.Hand.KOps (Cert.KernelIdeal.Hand.Wl (F := Ideal) m ρ c) (Proc.devRef .tc Cert.KernelIdeal.main_call22_v1) = StableHlo.after (Cert.ReferenceIdeal.Hand.ops (F := Ideal)) (StableHlo.launchContents m' c) (Proc.devRef .tc Cert.ReferenceIdeal.main_call81_v1) := by
  have hk := StableHlo.Ascending.eq_binary Cert.KernelIdeal.Hand.KOps_asc (Cert.KernelIdeal.Hand.Wl m ρ c) (Cert.KernelIdeal.Hand.mem_KOps_st7 (Cert.KernelIdeal.Hand.mem_st_7_43 (List.getElem_mem (l := Cert.KernelIdeal.GenP.hostOps7_43 (F := Ideal)) (n := 2) (by decide)))) rfl rfl rfl (by decide) (by decide) (a := Cert.KernelIdeal.main_v517) (b := Cert.KernelIdeal.main_call22_v0) (y := Cert.KernelIdeal.main_call22_v1) (f := open Cert.KernelIdeal Cert.KernelIdeal.Gen in (cmpf (F := Ideal) .oge)) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part34 (List.getElem_mem (l := Cert.ReferenceIdeal.Hand.ops_part34 (F := Ideal)) (n := 80) (by decide))) rfl rfl rfl (by decide) (by decide) (a := Cert.ReferenceIdeal.main_v1723) (b := Cert.ReferenceIdeal.main_call81_v0) (y := Cert.ReferenceIdeal.main_call81_v1) (f := open Cert.ReferenceIdeal Cert.ReferenceIdeal.Gen in (cmpf (F := Ideal) .oge)) (ha := ⟨by decide, rfl⟩) (hb := ⟨by decide, rfl⟩) (hy := ⟨by decide, rfl⟩)
  rw [hk, hr, ← c_main_v517__main_v1723 hag hel, ← c_main_call22_v0__main_call81_v0 hag hel]

theorem c_main_call22_v2__main_call81_v2 : StableHlo.after Cert.KernelIdeal.Hand.KOps (Cert.KernelIdeal.Hand.Wl (F := Ideal) m ρ c) (Proc.devRef .tc Cert.KernelIdeal.main_call22_v2) = StableHlo.after (Cert.ReferenceIdeal.Hand.ops (F := Ideal)) (StableHlo.launchContents m' c) (Proc.devRef .tc Cert.ReferenceIdeal.main_call81_v2) := by
  have hk := StableHlo.Ascending.eq_unary Cert.KernelIdeal.Hand.KOps_asc (Cert.KernelIdeal.Hand.Wl m ρ c) (Cert.KernelIdeal.Hand.mem_KOps_st7 (Cert.KernelIdeal.Hand.mem_st_7_43 (List.getElem_mem (l := Cert.KernelIdeal.GenP.hostOps7_43 (F := Ideal)) (n := 3) (by decide)))) rfl rfl (by decide) (x := Cert.KernelIdeal.main_cst_101) (y := Cert.KernelIdeal.main_call22_v2) (f := open Cert.KernelIdeal Cert.KernelIdeal.Gen in id) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part34 (List.getElem_mem (l := Cert.ReferenceIdeal.Hand.ops_part34 (F := Ideal)) (n := 81) (by decide))) rfl rfl (by decide) (x := Cert.ReferenceIdeal.main_cst_369) (y := Cert.ReferenceIdeal.main_call81_v2) (f := open Cert.ReferenceIdeal Cert.ReferenceIdeal.Gen in id) (hx := ⟨by decide, rfl⟩) (hy := ⟨by decide, rfl⟩)
  rw [hk, hr, ← c_main_cst_101__main_cst_369 hag hel]

theorem c_main_call22_v3__main_call81_v3 : StableHlo.after Cert.KernelIdeal.Hand.KOps (Cert.KernelIdeal.Hand.Wl (F := Ideal) m ρ c) (Proc.devRef .tc Cert.KernelIdeal.main_call22_v3) = StableHlo.after (Cert.ReferenceIdeal.Hand.ops (F := Ideal)) (StableHlo.launchContents m' c) (Proc.devRef .tc Cert.ReferenceIdeal.main_call81_v3) := by
  have hk := StableHlo.Ascending.eq_unary Cert.KernelIdeal.Hand.KOps_asc (Cert.KernelIdeal.Hand.Wl m ρ c) (Cert.KernelIdeal.Hand.mem_KOps_st7 (Cert.KernelIdeal.Hand.mem_st_7_43 (List.getElem_mem (l := Cert.KernelIdeal.GenP.hostOps7_43 (F := Ideal)) (n := 4) (by decide)))) rfl rfl (by decide) (x := Cert.KernelIdeal.main_call22_v2) (y := Cert.KernelIdeal.main_call22_v3) (f := open Cert.KernelIdeal Cert.KernelIdeal.Gen in (broadcastInDim S2048x2048 ![] bcast_S_S2048x2048)) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part34 (List.getElem_mem (l := Cert.ReferenceIdeal.Hand.ops_part34 (F := Ideal)) (n := 82) (by decide))) rfl rfl (by decide) (x := Cert.ReferenceIdeal.main_call81_v2) (y := Cert.ReferenceIdeal.main_call81_v3) (f := open Cert.ReferenceIdeal Cert.ReferenceIdeal.Gen in (broadcastInDim S2048x2048 ![] bcast_S_S2048x2048)) (hx := ⟨by decide, rfl⟩) (hy := ⟨by decide, rfl⟩)
  rw [hk, hr, ← c_main_call22_v2__main_call81_v2 hag hel]

theorem c_main_call22_v4__main_call81_v4 : StableHlo.after Cert.KernelIdeal.Hand.KOps (Cert.KernelIdeal.Hand.Wl (F := Ideal) m ρ c) (Proc.devRef .tc Cert.KernelIdeal.main_call22_v4) = StableHlo.after (Cert.ReferenceIdeal.Hand.ops (F := Ideal)) (StableHlo.launchContents m' c) (Proc.devRef .tc Cert.ReferenceIdeal.main_call81_v4) := by
  have hk := StableHlo.Ascending.eq_binary Cert.KernelIdeal.Hand.KOps_asc (Cert.KernelIdeal.Hand.Wl m ρ c) (Cert.KernelIdeal.Hand.mem_KOps_st7 (Cert.KernelIdeal.Hand.mem_st_7_43 (List.getElem_mem (l := Cert.KernelIdeal.GenP.hostOps7_43 (F := Ideal)) (n := 5) (by decide)))) rfl rfl rfl (by decide) (by decide) (a := Cert.KernelIdeal.main_call22_v3) (b := Cert.KernelIdeal.main_v517) (y := Cert.KernelIdeal.main_call22_v4) (f := open Cert.KernelIdeal Cert.KernelIdeal.Gen in mulf (F := Ideal)) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part34 (List.getElem_mem (l := Cert.ReferenceIdeal.Hand.ops_part34 (F := Ideal)) (n := 83) (by decide))) rfl rfl rfl (by decide) (by decide) (a := Cert.ReferenceIdeal.main_call81_v3) (b := Cert.ReferenceIdeal.main_v1723) (y := Cert.ReferenceIdeal.main_call81_v4) (f := open Cert.ReferenceIdeal Cert.ReferenceIdeal.Gen in mulf (F := Ideal)) (ha := ⟨by decide, rfl⟩) (hb := ⟨by decide, rfl⟩) (hy := ⟨by decide, rfl⟩)
  rw [hk, hr, ← c_main_call22_v3__main_call81_v3 hag hel, ← c_main_v517__main_v1723 hag hel]

theorem c_main_v518__main_v1724 : StableHlo.after Cert.KernelIdeal.Hand.KOps (Cert.KernelIdeal.Hand.Wl (F := Ideal) m ρ c) (Proc.devRef .tc Cert.KernelIdeal.main_v518) = StableHlo.after (Cert.ReferenceIdeal.Hand.ops (F := Ideal)) (StableHlo.launchContents m' c) (Proc.devRef .tc Cert.ReferenceIdeal.main_v1724) := by
  have hk := StableHlo.Ascending.eq_ternary Cert.KernelIdeal.Hand.KOps_asc (Cert.KernelIdeal.Hand.Wl m ρ c) (Cert.KernelIdeal.Hand.mem_KOps_st7 (Cert.KernelIdeal.Hand.mem_st_7_43 (List.getElem_mem (l := Cert.KernelIdeal.GenP.hostOps7_43 (F := Ideal)) (n := 6) (by decide)))) rfl rfl rfl rfl (by decide) (by decide) (by decide) (c := Cert.KernelIdeal.main_call22_v1) (a := Cert.KernelIdeal.main_v517) (b := Cert.KernelIdeal.main_call22_v4) (y := Cert.KernelIdeal.main_v518) (f := (select : (⟨Cert.KernelIdeal.S2048x2048, .i1⟩ : BufTy).Contents (Elt Ideal) → (⟨Cert.KernelIdeal.S2048x2048, .f32⟩ : BufTy).Contents (Elt Ideal) → (⟨Cert.KernelIdeal.S2048x2048, .f32⟩ : BufTy).Contents (Elt Ideal) → (⟨Cert.KernelIdeal.S2048x2048, .f32⟩ : BufTy).Contents (Elt Ideal))) (hc := ⟨by decide, rfl⟩) (ha := ⟨by decide, rfl⟩) (hb := ⟨by decide, rfl⟩) (hy := ⟨by decide, rfl⟩)
  have hr := StableHlo.Ascending.eq_ternary (Cert.ReferenceIdeal.Hand.ops_asc (F := Ideal)) (StableHlo.launchContents m' c) (Cert.ReferenceIdeal.Hand.mem_ops_part34 (List.getElem_mem (l := Cert.ReferenceIdeal.Hand.ops_part34 (F := Ideal)) (n := 84) (by decide))) rfl rfl rfl rfl (by decide) (by decide) (by decide) (c := Cert.ReferenceIdeal.main_call81_v1) (a := Cert.ReferenceIdeal.main_v1723) (b := Cert.ReferenceIdeal.main_call81_v4) (y := Cert.ReferenceIdeal.main_v1724) (f := (select : (⟨Cert.ReferenceIdeal.S2048x2048, .i1⟩ : BufTy).Contents (Elt Ideal) → (⟨Cert.ReferenceIdeal.S2048x2048, .f32⟩ : BufTy).Contents (Elt Ideal) → (⟨Cert.ReferenceIdeal.S2048x2048, .f32⟩ : BufTy).Contents (Elt Ideal) → (⟨Cert.ReferenceIdeal.S2048x2048, .f32⟩ : BufTy).Contents (Elt Ideal))) (hc := ⟨by decide, rfl⟩) (ha := ⟨by decide, rfl⟩) (hb := ⟨by decide, rfl⟩) (hy := ⟨by decide, rfl⟩)
  rw [hk, hr, ← c_main_call22_v1__main_call81_v1 hag hel, ← c_main_v517__main_v1723 hag hel, ← c_main_call22_v4__main_call81_v4 hag hel]

theorem c_main_cst_102__main_cst_370 : StableHlo.after Cert.KernelIdeal.Hand.KOps (Cert.KernelIdeal.Hand.Wl (F := Ideal) m ρ c) (Proc.devRef .tc Cert.KernelIdeal.main_cst_102) = StableHlo.after (Cert.ReferenceIdeal.Hand.ops (F := Ideal)) (StableHlo.launchContents m' c) (Proc.devRef .tc Cert.ReferenceIdeal.main_cst_370) := by
  have hk := StableHlo.Ascending.eq_nullary Cert.KernelIdeal.Hand.KOps_asc (Cert.KernelIdeal.Hand.Wl m ρ c) (Cert.KernelIdeal.Hand.mem_KOps_st7 (Cert.KernelIdeal.Hand.mem_st_7_44 (List.getElem_mem (l := Cert.KernelIdeal.GenP.hostOps7_44 (F := Ideal)) (n := 0) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part34 (List.getElem_mem (l := Cert.ReferenceIdeal.Hand.ops_part34 (F := Ideal)) (n := 85) (by decide))) rfl (hy := ⟨by decide, rfl⟩)
  rw [hk, hr]

theorem c_main_v519__main_v1725 : StableHlo.after Cert.KernelIdeal.Hand.KOps (Cert.KernelIdeal.Hand.Wl (F := Ideal) m ρ c) (Proc.devRef .tc Cert.KernelIdeal.main_v519) = StableHlo.after (Cert.ReferenceIdeal.Hand.ops (F := Ideal)) (StableHlo.launchContents m' c) (Proc.devRef .tc Cert.ReferenceIdeal.main_v1725) := by
  have hk := StableHlo.Ascending.eq_binary Cert.KernelIdeal.Hand.KOps_asc (Cert.KernelIdeal.Hand.Wl m ρ c) (Cert.KernelIdeal.Hand.mem_KOps_st7 (Cert.KernelIdeal.Hand.mem_st_7_44 (List.getElem_mem (l := Cert.KernelIdeal.GenP.hostOps7_44 (F := Ideal)) (n := 1) (by decide)))) rfl rfl rfl (by decide) (by decide) (a := Cert.KernelIdeal.main_v200) (b := Cert.KernelIdeal.main_cst_102) (y := Cert.KernelIdeal.main_v519) (f := open Cert.KernelIdeal Cert.KernelIdeal.Gen in (fun x v => Host.reduce (FloatOps.minimumf (F := Ideal)) x v reducesTo_S2048x1_S_d0_1 h_S_)) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part34 (List.getElem_mem (l := Cert.ReferenceIdeal.Hand.ops_part34 (F := Ideal)) (n := 86) (by decide))) rfl rfl rfl (by decide) (by decide) (a := Cert.ReferenceIdeal.main_v1670) (b := Cert.ReferenceIdeal.main_cst_370) (y := Cert.ReferenceIdeal.main_v1725) (f := open Cert.ReferenceIdeal Cert.ReferenceIdeal.Gen in (fun x v => Host.reduce (FloatOps.minimumf (F := Ideal)) x v reducesTo_S2048x1_S_d0_1 h_S_)) (ha := ⟨by decide, rfl⟩) (hb := ⟨by decide, rfl⟩) (hy := ⟨by decide, rfl⟩)
  rw [hk, hr, ← c_main_v200__main_v1670 hag hel, ← c_main_cst_102__main_cst_370 hag hel]

theorem c_main_v520__main_v1726 : StableHlo.after Cert.KernelIdeal.Hand.KOps (Cert.KernelIdeal.Hand.Wl (F := Ideal) m ρ c) (Proc.devRef .tc Cert.KernelIdeal.main_v520) = StableHlo.after (Cert.ReferenceIdeal.Hand.ops (F := Ideal)) (StableHlo.launchContents m' c) (Proc.devRef .tc Cert.ReferenceIdeal.main_v1726) := by
  have hk := StableHlo.Ascending.eq_unary Cert.KernelIdeal.Hand.KOps_asc (Cert.KernelIdeal.Hand.Wl m ρ c) (Cert.KernelIdeal.Hand.mem_KOps_st7 (Cert.KernelIdeal.Hand.mem_st_7_44 (List.getElem_mem (l := Cert.KernelIdeal.GenP.hostOps7_44 (F := Ideal)) (n := 2) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part34 (List.getElem_mem (l := Cert.ReferenceIdeal.Hand.ops_part34 (F := Ideal)) (n := 87) (by decide))) rfl rfl (by decide) (hx := ⟨by decide, rfl⟩) (hy := ⟨by decide, rfl⟩)
  rw [hk, hr, ← c_main_v519__main_v1725 hag hel]

theorem c_main_v521__main_v1727 : StableHlo.after Cert.KernelIdeal.Hand.KOps (Cert.KernelIdeal.Hand.Wl (F := Ideal) m ρ c) (Proc.devRef .tc Cert.KernelIdeal.main_v521) = StableHlo.after (Cert.ReferenceIdeal.Hand.ops (F := Ideal)) (StableHlo.launchContents m' c) (Proc.devRef .tc Cert.ReferenceIdeal.main_v1727) := by
  have hk := StableHlo.Ascending.eq_binary Cert.KernelIdeal.Hand.KOps_asc (Cert.KernelIdeal.Hand.Wl m ρ c) (Cert.KernelIdeal.Hand.mem_KOps_st7 (Cert.KernelIdeal.Hand.mem_st_7_44 (List.getElem_mem (l := Cert.KernelIdeal.GenP.hostOps7_44 (F := Ideal)) (n := 3) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part35 (List.getElem_mem (l := Cert.ReferenceIdeal.Hand.ops_part35 (F := Ideal)) (n := 0) (by decide))) rfl rfl rfl (by decide) (by decide) (ha := ⟨by decide, rfl⟩) (hb := ⟨by decide, rfl⟩) (hy := ⟨by decide, rfl⟩)
  rw [hk, hr, ← c_main_v200__main_v1670 hag hel, ← c_main_v520__main_v1726 hag hel]

theorem c_main_cst_103__main_cst_371 : StableHlo.after Cert.KernelIdeal.Hand.KOps (Cert.KernelIdeal.Hand.Wl (F := Ideal) m ρ c) (Proc.devRef .tc Cert.KernelIdeal.main_cst_103) = StableHlo.after (Cert.ReferenceIdeal.Hand.ops (F := Ideal)) (StableHlo.launchContents m' c) (Proc.devRef .tc Cert.ReferenceIdeal.main_cst_371) := by
  have hk := StableHlo.Ascending.eq_nullary Cert.KernelIdeal.Hand.KOps_asc (Cert.KernelIdeal.Hand.Wl m ρ c) (Cert.KernelIdeal.Hand.mem_KOps_st7 (Cert.KernelIdeal.Hand.mem_st_7_44 (List.getElem_mem (l := Cert.KernelIdeal.GenP.hostOps7_44 (F := Ideal)) (n := 4) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part35 (List.getElem_mem (l := Cert.ReferenceIdeal.Hand.ops_part35 (F := Ideal)) (n := 1) (by decide))) rfl (hy := ⟨by decide, rfl⟩)
  rw [hk, hr]

theorem c_main_v522__main_v1728 : StableHlo.after Cert.KernelIdeal.Hand.KOps (Cert.KernelIdeal.Hand.Wl (F := Ideal) m ρ c) (Proc.devRef .tc Cert.KernelIdeal.main_v522) = StableHlo.after (Cert.ReferenceIdeal.Hand.ops (F := Ideal)) (StableHlo.launchContents m' c) (Proc.devRef .tc Cert.ReferenceIdeal.main_v1728) := by
  have hk := StableHlo.Ascending.eq_binary Cert.KernelIdeal.Hand.KOps_asc (Cert.KernelIdeal.Hand.Wl m ρ c) (Cert.KernelIdeal.Hand.mem_KOps_st7 (Cert.KernelIdeal.Hand.mem_st_7_44 (List.getElem_mem (l := Cert.KernelIdeal.GenP.hostOps7_44 (F := Ideal)) (n := 5) (by decide)))) rfl rfl rfl (by decide) (by decide) (a := Cert.KernelIdeal.main_v200) (b := Cert.KernelIdeal.main_cst_103) (y := Cert.KernelIdeal.main_v522) (f := open Cert.KernelIdeal Cert.KernelIdeal.Gen in (fun x v => Host.reduce (FloatOps.maximumf (F := Ideal)) x v reducesTo_S2048x1_S_d0_1 h_S_)) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part35 (List.getElem_mem (l := Cert.ReferenceIdeal.Hand.ops_part35 (F := Ideal)) (n := 2) (by decide))) rfl rfl rfl (by decide) (by decide) (a := Cert.ReferenceIdeal.main_v1670) (b := Cert.ReferenceIdeal.main_cst_371) (y := Cert.ReferenceIdeal.main_v1728) (f := open Cert.ReferenceIdeal Cert.ReferenceIdeal.Gen in (fun x v => Host.reduce (FloatOps.maximumf (F := Ideal)) x v reducesTo_S2048x1_S_d0_1 h_S_)) (ha := ⟨by decide, rfl⟩) (hb := ⟨by decide, rfl⟩) (hy := ⟨by decide, rfl⟩)
  rw [hk, hr, ← c_main_v200__main_v1670 hag hel, ← c_main_cst_103__main_cst_371 hag hel]

theorem c_main_cst_104__main_cst_372 : StableHlo.after Cert.KernelIdeal.Hand.KOps (Cert.KernelIdeal.Hand.Wl (F := Ideal) m ρ c) (Proc.devRef .tc Cert.KernelIdeal.main_cst_104) = StableHlo.after (Cert.ReferenceIdeal.Hand.ops (F := Ideal)) (StableHlo.launchContents m' c) (Proc.devRef .tc Cert.ReferenceIdeal.main_cst_372) := by
  have hk := StableHlo.Ascending.eq_nullary Cert.KernelIdeal.Hand.KOps_asc (Cert.KernelIdeal.Hand.Wl m ρ c) (Cert.KernelIdeal.Hand.mem_KOps_st7 (Cert.KernelIdeal.Hand.mem_st_7_44 (List.getElem_mem (l := Cert.KernelIdeal.GenP.hostOps7_44 (F := Ideal)) (n := 6) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part35 (List.getElem_mem (l := Cert.ReferenceIdeal.Hand.ops_part35 (F := Ideal)) (n := 3) (by decide))) rfl (hy := ⟨by decide, rfl⟩)
  rw [hk, hr]

theorem c_main_v523__main_v1729 : StableHlo.after Cert.KernelIdeal.Hand.KOps (Cert.KernelIdeal.Hand.Wl (F := Ideal) m ρ c) (Proc.devRef .tc Cert.KernelIdeal.main_v523) = StableHlo.after (Cert.ReferenceIdeal.Hand.ops (F := Ideal)) (StableHlo.launchContents m' c) (Proc.devRef .tc Cert.ReferenceIdeal.main_v1729) := by
  have hk := StableHlo.Ascending.eq_binary Cert.KernelIdeal.Hand.KOps_asc (Cert.KernelIdeal.Hand.Wl m ρ c) (Cert.KernelIdeal.Hand.mem_KOps_st7 (Cert.KernelIdeal.Hand.mem_st_7_44 (List.getElem_mem (l := Cert.KernelIdeal.GenP.hostOps7_44 (F := Ideal)) (n := 7) (by decide)))) rfl rfl rfl (by decide) (by decide) (a := Cert.KernelIdeal.main_v200) (b := Cert.KernelIdeal.main_cst_104) (y := Cert.KernelIdeal.main_v523) (f := open Cert.KernelIdeal Cert.KernelIdeal.Gen in (fun x v => Host.reduce (FloatOps.minimumf (F := Ideal)) x v reducesTo_S2048x1_S_d0_1 h_S_)) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part35 (List.getElem_mem (l := Cert.ReferenceIdeal.Hand.ops_part35 (F := Ideal)) (n := 4) (by decide))) rfl rfl rfl (by decide) (by decide) (a := Cert.ReferenceIdeal.main_v1670) (b := Cert.ReferenceIdeal.main_cst_372) (y := Cert.ReferenceIdeal.main_v1729) (f := open Cert.ReferenceIdeal Cert.ReferenceIdeal.Gen in (fun x v => Host.reduce (FloatOps.minimumf (F := Ideal)) x v reducesTo_S2048x1_S_d0_1 h_S_)) (ha := ⟨by decide, rfl⟩) (hb := ⟨by decide, rfl⟩) (hy := ⟨by decide, rfl⟩)
  rw [hk, hr, ← c_main_v200__main_v1670 hag hel, ← c_main_cst_104__main_cst_372 hag hel]

theorem c_main_v524__main_v1730 : StableHlo.after Cert.KernelIdeal.Hand.KOps (Cert.KernelIdeal.Hand.Wl (F := Ideal) m ρ c) (Proc.devRef .tc Cert.KernelIdeal.main_v524) = StableHlo.after (Cert.ReferenceIdeal.Hand.ops (F := Ideal)) (StableHlo.launchContents m' c) (Proc.devRef .tc Cert.ReferenceIdeal.main_v1730) := by
  have hk := StableHlo.Ascending.eq_binary Cert.KernelIdeal.Hand.KOps_asc (Cert.KernelIdeal.Hand.Wl m ρ c) (Cert.KernelIdeal.Hand.mem_KOps_st7 (Cert.KernelIdeal.Hand.mem_st_7_44 (List.getElem_mem (l := Cert.KernelIdeal.GenP.hostOps7_44 (F := Ideal)) (n := 8) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part35 (List.getElem_mem (l := Cert.ReferenceIdeal.Hand.ops_part35 (F := Ideal)) (n := 5) (by decide))) rfl rfl rfl (by decide) (by decide) (ha := ⟨by decide, rfl⟩) (hb := ⟨by decide, rfl⟩) (hy := ⟨by decide, rfl⟩)
  rw [hk, hr, ← c_main_v522__main_v1728 hag hel, ← c_main_v523__main_v1729 hag hel]

theorem c_main_v525__main_v1731 : StableHlo.after Cert.KernelIdeal.Hand.KOps (Cert.KernelIdeal.Hand.Wl (F := Ideal) m ρ c) (Proc.devRef .tc Cert.KernelIdeal.main_v525) = StableHlo.after (Cert.ReferenceIdeal.Hand.ops (F := Ideal)) (StableHlo.launchContents m' c) (Proc.devRef .tc Cert.ReferenceIdeal.main_v1731) := by
  have hk := StableHlo.Ascending.eq_unary Cert.KernelIdeal.Hand.KOps_asc (Cert.KernelIdeal.Hand.Wl m ρ c) (Cert.KernelIdeal.Hand.mem_KOps_st7 (Cert.KernelIdeal.Hand.mem_st_7_44 (List.getElem_mem (l := Cert.KernelIdeal.GenP.hostOps7_44 (F := Ideal)) (n := 9) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part35 (List.getElem_mem (l := Cert.ReferenceIdeal.Hand.ops_part35 (F := Ideal)) (n := 6) (by decide))) rfl rfl (by decide) (hx := ⟨by decide, rfl⟩) (hy := ⟨by decide, rfl⟩)
  rw [hk, hr, ← c_main_v524__main_v1730 hag hel]

theorem c_main_v526__main_v1732 : StableHlo.after Cert.KernelIdeal.Hand.KOps (Cert.KernelIdeal.Hand.Wl (F := Ideal) m ρ c) (Proc.devRef .tc Cert.KernelIdeal.main_v526) = StableHlo.after (Cert.ReferenceIdeal.Hand.ops (F := Ideal)) (StableHlo.launchContents m' c) (Proc.devRef .tc Cert.ReferenceIdeal.main_v1732) := by
  have hk := StableHlo.Ascending.eq_binary Cert.KernelIdeal.Hand.KOps_asc (Cert.KernelIdeal.Hand.Wl m ρ c) (Cert.KernelIdeal.Hand.mem_KOps_st7 (Cert.KernelIdeal.Hand.mem_st_7_44 (List.getElem_mem (l := Cert.KernelIdeal.GenP.hostOps7_44 (F := Ideal)) (n := 10) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part35 (List.getElem_mem (l := Cert.ReferenceIdeal.Hand.ops_part35 (F := Ideal)) (n := 7) (by decide))) rfl rfl rfl (by decide) (by decide) (ha := ⟨by decide, rfl⟩) (hb := ⟨by decide, rfl⟩) (hy := ⟨by decide, rfl⟩)
  rw [hk, hr, ← c_main_v521__main_v1727 hag hel, ← c_main_v525__main_v1731 hag hel]

theorem c_main_cst_105__main_cst_373 : StableHlo.after Cert.KernelIdeal.Hand.KOps (Cert.KernelIdeal.Hand.Wl (F := Ideal) m ρ c) (Proc.devRef .tc Cert.KernelIdeal.main_cst_105) = StableHlo.after (Cert.ReferenceIdeal.Hand.ops (F := Ideal)) (StableHlo.launchContents m' c) (Proc.devRef .tc Cert.ReferenceIdeal.main_cst_373) := by
  have hk := StableHlo.Ascending.eq_nullary Cert.KernelIdeal.Hand.KOps_asc (Cert.KernelIdeal.Hand.Wl m ρ c) (Cert.KernelIdeal.Hand.mem_KOps_st7 (Cert.KernelIdeal.Hand.mem_st_7_44 (List.getElem_mem (l := Cert.KernelIdeal.GenP.hostOps7_44 (F := Ideal)) (n := 11) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part35 (List.getElem_mem (l := Cert.ReferenceIdeal.Hand.ops_part35 (F := Ideal)) (n := 8) (by decide))) rfl (hy := ⟨by decide, rfl⟩)
  rw [hk, hr]

theorem c_main_v527__main_v1733 : StableHlo.after Cert.KernelIdeal.Hand.KOps (Cert.KernelIdeal.Hand.Wl (F := Ideal) m ρ c) (Proc.devRef .tc Cert.KernelIdeal.main_v527) = StableHlo.after (Cert.ReferenceIdeal.Hand.ops (F := Ideal)) (StableHlo.launchContents m' c) (Proc.devRef .tc Cert.ReferenceIdeal.main_v1733) := by
  have hk := StableHlo.Ascending.eq_binary Cert.KernelIdeal.Hand.KOps_asc (Cert.KernelIdeal.Hand.Wl m ρ c) (Cert.KernelIdeal.Hand.mem_KOps_st7 (Cert.KernelIdeal.Hand.mem_st_7_44 (List.getElem_mem (l := Cert.KernelIdeal.GenP.hostOps7_44 (F := Ideal)) (n := 12) (by decide)))) rfl rfl rfl (by decide) (by decide) (a := Cert.KernelIdeal.main_v518) (b := Cert.KernelIdeal.main_cst_105) (y := Cert.KernelIdeal.main_v527) (f := open Cert.KernelIdeal Cert.KernelIdeal.Gen in (fun x v => Host.reduce (FloatOps.maximumf (F := Ideal)) x v reducesTo_S2048x2048_S_d0_1 h_S_)) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part35 (List.getElem_mem (l := Cert.ReferenceIdeal.Hand.ops_part35 (F := Ideal)) (n := 9) (by decide))) rfl rfl rfl (by decide) (by decide) (a := Cert.ReferenceIdeal.main_v1724) (b := Cert.ReferenceIdeal.main_cst_373) (y := Cert.ReferenceIdeal.main_v1733) (f := open Cert.ReferenceIdeal Cert.ReferenceIdeal.Gen in (fun x v => Host.reduce (FloatOps.maximumf (F := Ideal)) x v reducesTo_S2048x2048_S_d0_1 h_S_)) (ha := ⟨by decide, rfl⟩) (hb := ⟨by decide, rfl⟩) (hy := ⟨by decide, rfl⟩)
  rw [hk, hr, ← c_main_v518__main_v1724 hag hel, ← c_main_cst_105__main_cst_373 hag hel]

theorem c_main_v528__main_v1734 : StableHlo.after Cert.KernelIdeal.Hand.KOps (Cert.KernelIdeal.Hand.Wl (F := Ideal) m ρ c) (Proc.devRef .tc Cert.KernelIdeal.main_v528) = StableHlo.after (Cert.ReferenceIdeal.Hand.ops (F := Ideal)) (StableHlo.launchContents m' c) (Proc.devRef .tc Cert.ReferenceIdeal.main_v1734) := by
  have hk := StableHlo.Ascending.eq_unary Cert.KernelIdeal.Hand.KOps_asc (Cert.KernelIdeal.Hand.Wl m ρ c) (Cert.KernelIdeal.Hand.mem_KOps_st7 (Cert.KernelIdeal.Hand.mem_st_7_44 (List.getElem_mem (l := Cert.KernelIdeal.GenP.hostOps7_44 (F := Ideal)) (n := 13) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part35 (List.getElem_mem (l := Cert.ReferenceIdeal.Hand.ops_part35 (F := Ideal)) (n := 10) (by decide))) rfl rfl (by decide) (hx := ⟨by decide, rfl⟩) (hy := ⟨by decide, rfl⟩)
  rw [hk, hr, ← c_main_v527__main_v1733 hag hel]

theorem c_main_v529__main_v1735 : StableHlo.after Cert.KernelIdeal.Hand.KOps (Cert.KernelIdeal.Hand.Wl (F := Ideal) m ρ c) (Proc.devRef .tc Cert.KernelIdeal.main_v529) = StableHlo.after (Cert.ReferenceIdeal.Hand.ops (F := Ideal)) (StableHlo.launchContents m' c) (Proc.devRef .tc Cert.ReferenceIdeal.main_v1735) := by
  have hk := StableHlo.Ascending.eq_binary Cert.KernelIdeal.Hand.KOps_asc (Cert.KernelIdeal.Hand.Wl m ρ c) (Cert.KernelIdeal.Hand.mem_KOps_st7 (Cert.KernelIdeal.Hand.mem_st_7_44 (List.getElem_mem (l := Cert.KernelIdeal.GenP.hostOps7_44 (F := Ideal)) (n := 14) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part35 (List.getElem_mem (l := Cert.ReferenceIdeal.Hand.ops_part35 (F := Ideal)) (n := 11) (by decide))) rfl rfl rfl (by decide) (by decide) (ha := ⟨by decide, rfl⟩) (hb := ⟨by decide, rfl⟩) (hy := ⟨by decide, rfl⟩)
  rw [hk, hr, ← c_main_v526__main_v1732 hag hel, ← c_main_v528__main_v1734 hag hel]

theorem c_main_cst_106__main_cst_374 : StableHlo.after Cert.KernelIdeal.Hand.KOps (Cert.KernelIdeal.Hand.Wl (F := Ideal) m ρ c) (Proc.devRef .tc Cert.KernelIdeal.main_cst_106) = StableHlo.after (Cert.ReferenceIdeal.Hand.ops (F := Ideal)) (StableHlo.launchContents m' c) (Proc.devRef .tc Cert.ReferenceIdeal.main_cst_374) := by
  have hk := StableHlo.Ascending.eq_nullary Cert.KernelIdeal.Hand.KOps_asc (Cert.KernelIdeal.Hand.Wl m ρ c) (Cert.KernelIdeal.Hand.mem_KOps_st7 (Cert.KernelIdeal.Hand.mem_st_7_44 (List.getElem_mem (l := Cert.KernelIdeal.GenP.hostOps7_44 (F := Ideal)) (n := 15) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part35 (List.getElem_mem (l := Cert.ReferenceIdeal.Hand.ops_part35 (F := Ideal)) (n := 12) (by decide))) rfl (hy := ⟨by decide, rfl⟩)
  rw [hk, hr]

theorem c_main_v530__main_v1736 : StableHlo.after Cert.KernelIdeal.Hand.KOps (Cert.KernelIdeal.Hand.Wl (F := Ideal) m ρ c) (Proc.devRef .tc Cert.KernelIdeal.main_v530) = StableHlo.after (Cert.ReferenceIdeal.Hand.ops (F := Ideal)) (StableHlo.launchContents m' c) (Proc.devRef .tc Cert.ReferenceIdeal.main_v1736) := by
  have hk := StableHlo.Ascending.eq_unary Cert.KernelIdeal.Hand.KOps_asc (Cert.KernelIdeal.Hand.Wl m ρ c) (Cert.KernelIdeal.Hand.mem_KOps_st7 (Cert.KernelIdeal.Hand.mem_st_7_44 (List.getElem_mem (l := Cert.KernelIdeal.GenP.hostOps7_44 (F := Ideal)) (n := 16) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part35 (List.getElem_mem (l := Cert.ReferenceIdeal.Hand.ops_part35 (F := Ideal)) (n := 13) (by decide))) rfl rfl (by decide) (hx := ⟨by decide, rfl⟩) (hy := ⟨by decide, rfl⟩)
  rw [hk, hr, ← c_main_cst_106__main_cst_374 hag hel]

theorem c_main_v531__main_v1737 : StableHlo.after Cert.KernelIdeal.Hand.KOps (Cert.KernelIdeal.Hand.Wl (F := Ideal) m ρ c) (Proc.devRef .tc Cert.KernelIdeal.main_v531) = StableHlo.after (Cert.ReferenceIdeal.Hand.ops (F := Ideal)) (StableHlo.launchContents m' c) (Proc.devRef .tc Cert.ReferenceIdeal.main_v1737) := by
  have hk := StableHlo.Ascending.eq_binary Cert.KernelIdeal.Hand.KOps_asc (Cert.KernelIdeal.Hand.Wl m ρ c) (Cert.KernelIdeal.Hand.mem_KOps_st7 (Cert.KernelIdeal.Hand.mem_st_7_44 (List.getElem_mem (l := Cert.KernelIdeal.GenP.hostOps7_44 (F := Ideal)) (n := 17) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part35 (List.getElem_mem (l := Cert.ReferenceIdeal.Hand.ops_part35 (F := Ideal)) (n := 14) (by decide))) rfl rfl rfl (by decide) (by decide) (ha := ⟨by decide, rfl⟩) (hb := ⟨by decide, rfl⟩) (hy := ⟨by decide, rfl⟩)
  rw [hk, hr, ← c_main_v24__main_v1713 hag hel, ← c_main_v530__main_v1736 hag hel]

theorem c_main_v532__main_v1738 : StableHlo.after Cert.KernelIdeal.Hand.KOps (Cert.KernelIdeal.Hand.Wl (F := Ideal) m ρ c) (Proc.devRef .tc Cert.KernelIdeal.main_v532) = StableHlo.after (Cert.ReferenceIdeal.Hand.ops (F := Ideal)) (StableHlo.launchContents m' c) (Proc.devRef .tc Cert.ReferenceIdeal.main_v1738) := by
  have hk := StableHlo.Ascending.eq_unary Cert.KernelIdeal.Hand.KOps_asc (Cert.KernelIdeal.Hand.Wl m ρ c) (Cert.KernelIdeal.Hand.mem_KOps_st7 (Cert.KernelIdeal.Hand.mem_st_7_44 (List.getElem_mem (l := Cert.KernelIdeal.GenP.hostOps7_44 (F := Ideal)) (n := 18) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part35 (List.getElem_mem (l := Cert.ReferenceIdeal.Hand.ops_part35 (F := Ideal)) (n := 15) (by decide))) rfl rfl (by decide) (hx := ⟨by decide, rfl⟩) (hy := ⟨by decide, rfl⟩)
  rw [hk, hr, ← c_main_v529__main_v1735 hag hel]

theorem c_main_v533__main_v1739 : StableHlo.after Cert.KernelIdeal.Hand.KOps (Cert.KernelIdeal.Hand.Wl (F := Ideal) m ρ c) (Proc.devRef .tc Cert.KernelIdeal.main_v533) = StableHlo.after (Cert.ReferenceIdeal.Hand.ops (F := Ideal)) (StableHlo.launchContents m' c) (Proc.devRef .tc Cert.ReferenceIdeal.main_v1739) := by
  have hk := StableHlo.Ascending.eq_binary Cert.KernelIdeal.Hand.KOps_asc (Cert.KernelIdeal.Hand.Wl m ρ c) (Cert.KernelIdeal.Hand.mem_KOps_st7 (Cert.KernelIdeal.Hand.mem_st_7_44 (List.getElem_mem (l := Cert.KernelIdeal.GenP.hostOps7_44 (F := Ideal)) (n := 19) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part35 (List.getElem_mem (l := Cert.ReferenceIdeal.Hand.ops_part35 (F := Ideal)) (n := 16) (by decide))) rfl rfl rfl (by decide) (by decide) (ha := ⟨by decide, rfl⟩) (hb := ⟨by decide, rfl⟩) (hy := ⟨by decide, rfl⟩)
  rw [hk, hr, ← c_main_v518__main_v1724 hag hel, ← c_main_v532__main_v1738 hag hel]

theorem c_main_cst_107__main_cst_375 : StableHlo.after Cert.KernelIdeal.Hand.KOps (Cert.KernelIdeal.Hand.Wl (F := Ideal) m ρ c) (Proc.devRef .tc Cert.KernelIdeal.main_cst_107) = StableHlo.after (Cert.ReferenceIdeal.Hand.ops (F := Ideal)) (StableHlo.launchContents m' c) (Proc.devRef .tc Cert.ReferenceIdeal.main_cst_375) := by
  have hk := StableHlo.Ascending.eq_nullary Cert.KernelIdeal.Hand.KOps_asc (Cert.KernelIdeal.Hand.Wl m ρ c) (Cert.KernelIdeal.Hand.mem_KOps_st7 (Cert.KernelIdeal.Hand.mem_st_7_44 (List.getElem_mem (l := Cert.KernelIdeal.GenP.hostOps7_44 (F := Ideal)) (n := 20) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part35 (List.getElem_mem (l := Cert.ReferenceIdeal.Hand.ops_part35 (F := Ideal)) (n := 17) (by decide))) rfl (hy := ⟨by decide, rfl⟩)
  rw [hk, hr]

theorem c_main_call23_v0__main_call82_v0 : StableHlo.after Cert.KernelIdeal.Hand.KOps (Cert.KernelIdeal.Hand.Wl (F := Ideal) m ρ c) (Proc.devRef .tc Cert.KernelIdeal.main_call23_v0) = StableHlo.after (Cert.ReferenceIdeal.Hand.ops (F := Ideal)) (StableHlo.launchContents m' c) (Proc.devRef .tc Cert.ReferenceIdeal.main_call82_v0) := by
  have hk := StableHlo.Ascending.eq_unary Cert.KernelIdeal.Hand.KOps_asc (Cert.KernelIdeal.Hand.Wl m ρ c) (Cert.KernelIdeal.Hand.mem_KOps_st7 (Cert.KernelIdeal.Hand.mem_st_7_45 (List.getElem_mem (l := Cert.KernelIdeal.GenP.hostOps7_45 (F := Ideal)) (n := 0) (by decide)))) rfl rfl (by decide) (x := Cert.KernelIdeal.main_cst_107) (y := Cert.KernelIdeal.main_call23_v0) (f := open Cert.KernelIdeal Cert.KernelIdeal.Gen in id) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part35 (List.getElem_mem (l := Cert.ReferenceIdeal.Hand.ops_part35 (F := Ideal)) (n := 18) (by decide))) rfl rfl (by decide) (x := Cert.ReferenceIdeal.main_cst_375) (y := Cert.ReferenceIdeal.main_call82_v0) (f := open Cert.ReferenceIdeal Cert.ReferenceIdeal.Gen in id) (hx := ⟨by decide, rfl⟩) (hy := ⟨by decide, rfl⟩)
  rw [hk, hr, ← c_main_cst_107__main_cst_375 hag hel]

theorem c_main_call23_v1__main_call82_v1 : StableHlo.after Cert.KernelIdeal.Hand.KOps (Cert.KernelIdeal.Hand.Wl (F := Ideal) m ρ c) (Proc.devRef .tc Cert.KernelIdeal.main_call23_v1) = StableHlo.after (Cert.ReferenceIdeal.Hand.ops (F := Ideal)) (StableHlo.launchContents m' c) (Proc.devRef .tc Cert.ReferenceIdeal.main_call82_v1) := by
  have hk := StableHlo.Ascending.eq_unary Cert.KernelIdeal.Hand.KOps_asc (Cert.KernelIdeal.Hand.Wl m ρ c) (Cert.KernelIdeal.Hand.mem_KOps_st7 (Cert.KernelIdeal.Hand.mem_st_7_45 (List.getElem_mem (l := Cert.KernelIdeal.GenP.hostOps7_45 (F := Ideal)) (n := 1) (by decide)))) rfl rfl (by decide) (x := Cert.KernelIdeal.main_call23_v0) (y := Cert.KernelIdeal.main_call23_v1) (f := open Cert.KernelIdeal Cert.KernelIdeal.Gen in (broadcastInDim S2048x2048 ![] bcast_S_S2048x2048)) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part35 (List.getElem_mem (l := Cert.ReferenceIdeal.Hand.ops_part35 (F := Ideal)) (n := 19) (by decide))) rfl rfl (by decide) (x := Cert.ReferenceIdeal.main_call82_v0) (y := Cert.ReferenceIdeal.main_call82_v1) (f := open Cert.ReferenceIdeal Cert.ReferenceIdeal.Gen in (broadcastInDim S2048x2048 ![] bcast_S_S2048x2048)) (hx := ⟨by decide, rfl⟩) (hy := ⟨by decide, rfl⟩)
  rw [hk, hr, ← c_main_call23_v0__main_call82_v0 hag hel]

theorem c_main_v534__main_v1740 : StableHlo.after Cert.KernelIdeal.Hand.KOps (Cert.KernelIdeal.Hand.Wl (F := Ideal) m ρ c) (Proc.devRef .tc Cert.KernelIdeal.main_v534) = StableHlo.after (Cert.ReferenceIdeal.Hand.ops (F := Ideal)) (StableHlo.launchContents m' c) (Proc.devRef .tc Cert.ReferenceIdeal.main_v1740) := by
  have hk := StableHlo.Ascending.eq_ternary Cert.KernelIdeal.Hand.KOps_asc (Cert.KernelIdeal.Hand.Wl m ρ c) (Cert.KernelIdeal.Hand.mem_KOps_st7 (Cert.KernelIdeal.Hand.mem_st_7_45 (List.getElem_mem (l := Cert.KernelIdeal.GenP.hostOps7_45 (F := Ideal)) (n := 2) (by decide)))) rfl rfl rfl rfl (by decide) (by decide) (by decide) (c := Cert.KernelIdeal.main_v531) (a := Cert.KernelIdeal.main_v533) (b := Cert.KernelIdeal.main_call23_v1) (y := Cert.KernelIdeal.main_v534) (f := (select : (⟨Cert.KernelIdeal.S2048x2048, .i1⟩ : BufTy).Contents (Elt Ideal) → (⟨Cert.KernelIdeal.S2048x2048, .f32⟩ : BufTy).Contents (Elt Ideal) → (⟨Cert.KernelIdeal.S2048x2048, .f32⟩ : BufTy).Contents (Elt Ideal) → (⟨Cert.KernelIdeal.S2048x2048, .f32⟩ : BufTy).Contents (Elt Ideal))) (hc := ⟨by decide, rfl⟩) (ha := ⟨by decide, rfl⟩) (hb := ⟨by decide, rfl⟩) (hy := ⟨by decide, rfl⟩)
  have hr := StableHlo.Ascending.eq_ternary (Cert.ReferenceIdeal.Hand.ops_asc (F := Ideal)) (StableHlo.launchContents m' c) (Cert.ReferenceIdeal.Hand.mem_ops_part35 (List.getElem_mem (l := Cert.ReferenceIdeal.Hand.ops_part35 (F := Ideal)) (n := 20) (by decide))) rfl rfl rfl rfl (by decide) (by decide) (by decide) (c := Cert.ReferenceIdeal.main_v1737) (a := Cert.ReferenceIdeal.main_v1739) (b := Cert.ReferenceIdeal.main_call82_v1) (y := Cert.ReferenceIdeal.main_v1740) (f := (select : (⟨Cert.ReferenceIdeal.S2048x2048, .i1⟩ : BufTy).Contents (Elt Ideal) → (⟨Cert.ReferenceIdeal.S2048x2048, .f32⟩ : BufTy).Contents (Elt Ideal) → (⟨Cert.ReferenceIdeal.S2048x2048, .f32⟩ : BufTy).Contents (Elt Ideal) → (⟨Cert.ReferenceIdeal.S2048x2048, .f32⟩ : BufTy).Contents (Elt Ideal))) (hc := ⟨by decide, rfl⟩) (ha := ⟨by decide, rfl⟩) (hb := ⟨by decide, rfl⟩) (hy := ⟨by decide, rfl⟩)
  rw [hk, hr, ← c_main_v531__main_v1737 hag hel, ← c_main_v533__main_v1739 hag hel, ← c_main_call23_v1__main_call82_v1 hag hel]

theorem c_main_cst_108__main_cst_376 : StableHlo.after Cert.KernelIdeal.Hand.KOps (Cert.KernelIdeal.Hand.Wl (F := Ideal) m ρ c) (Proc.devRef .tc Cert.KernelIdeal.main_cst_108) = StableHlo.after (Cert.ReferenceIdeal.Hand.ops (F := Ideal)) (StableHlo.launchContents m' c) (Proc.devRef .tc Cert.ReferenceIdeal.main_cst_376) := by
  have hk := StableHlo.Ascending.eq_nullary Cert.KernelIdeal.Hand.KOps_asc (Cert.KernelIdeal.Hand.Wl m ρ c) (Cert.KernelIdeal.Hand.mem_KOps_st7 (Cert.KernelIdeal.Hand.mem_st_7_46 (List.getElem_mem (l := Cert.KernelIdeal.GenP.hostOps7_46 (F := Ideal)) (n := 0) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part35 (List.getElem_mem (l := Cert.ReferenceIdeal.Hand.ops_part35 (F := Ideal)) (n := 21) (by decide))) rfl (hy := ⟨by decide, rfl⟩)
  rw [hk, hr]

theorem c_main_v535__main_v1741 : StableHlo.after Cert.KernelIdeal.Hand.KOps (Cert.KernelIdeal.Hand.Wl (F := Ideal) m ρ c) (Proc.devRef .tc Cert.KernelIdeal.main_v535) = StableHlo.after (Cert.ReferenceIdeal.Hand.ops (F := Ideal)) (StableHlo.launchContents m' c) (Proc.devRef .tc Cert.ReferenceIdeal.main_v1741) := by
  have hk := StableHlo.Ascending.eq_binary Cert.KernelIdeal.Hand.KOps_asc (Cert.KernelIdeal.Hand.Wl m ρ c) (Cert.KernelIdeal.Hand.mem_KOps_st7 (Cert.KernelIdeal.Hand.mem_st_7_46 (List.getElem_mem (l := Cert.KernelIdeal.GenP.hostOps7_46 (F := Ideal)) (n := 1) (by decide)))) rfl rfl rfl (by decide) (by decide) (a := Cert.KernelIdeal.main_v534) (b := Cert.KernelIdeal.main_cst_108) (y := Cert.KernelIdeal.main_v535) (f := open Cert.KernelIdeal Cert.KernelIdeal.Gen in (fun x v => Host.reduce (FloatOps.maximumf (F := Ideal)) x v reducesTo_S2048x2048_S2048_d1 h_S_)) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part35 (List.getElem_mem (l := Cert.ReferenceIdeal.Hand.ops_part35 (F := Ideal)) (n := 22) (by decide))) rfl rfl rfl (by decide) (by decide) (a := Cert.ReferenceIdeal.main_v1740) (b := Cert.ReferenceIdeal.main_cst_376) (y := Cert.ReferenceIdeal.main_v1741) (f := open Cert.ReferenceIdeal Cert.ReferenceIdeal.Gen in (fun x v => Host.reduce (FloatOps.maximumf (F := Ideal)) x v reducesTo_S2048x2048_S2048_d1 h_S_)) (ha := ⟨by decide, rfl⟩) (hb := ⟨by decide, rfl⟩) (hy := ⟨by decide, rfl⟩)
  rw [hk, hr, ← c_main_v534__main_v1740 hag hel, ← c_main_cst_108__main_cst_376 hag hel]

theorem c_main_cst_109__main_cst_377 : StableHlo.after Cert.KernelIdeal.Hand.KOps (Cert.KernelIdeal.Hand.Wl (F := Ideal) m ρ c) (Proc.devRef .tc Cert.KernelIdeal.main_cst_109) = StableHlo.after (Cert.ReferenceIdeal.Hand.ops (F := Ideal)) (StableHlo.launchContents m' c) (Proc.devRef .tc Cert.ReferenceIdeal.main_cst_377) := by
  have hk := StableHlo.Ascending.eq_nullary Cert.KernelIdeal.Hand.KOps_asc (Cert.KernelIdeal.Hand.Wl m ρ c) (Cert.KernelIdeal.Hand.mem_KOps_st7 (Cert.KernelIdeal.Hand.mem_st_7_46 (List.getElem_mem (l := Cert.KernelIdeal.GenP.hostOps7_46 (F := Ideal)) (n := 2) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part35 (List.getElem_mem (l := Cert.ReferenceIdeal.Hand.ops_part35 (F := Ideal)) (n := 23) (by decide))) rfl (hy := ⟨by decide, rfl⟩)
  rw [hk, hr]

theorem c_main_v536__main_v1742 : StableHlo.after Cert.KernelIdeal.Hand.KOps (Cert.KernelIdeal.Hand.Wl (F := Ideal) m ρ c) (Proc.devRef .tc Cert.KernelIdeal.main_v536) = StableHlo.after (Cert.ReferenceIdeal.Hand.ops (F := Ideal)) (StableHlo.launchContents m' c) (Proc.devRef .tc Cert.ReferenceIdeal.main_v1742) := by
  have hk := StableHlo.Ascending.eq_unary Cert.KernelIdeal.Hand.KOps_asc (Cert.KernelIdeal.Hand.Wl m ρ c) (Cert.KernelIdeal.Hand.mem_KOps_st7 (Cert.KernelIdeal.Hand.mem_st_7_46 (List.getElem_mem (l := Cert.KernelIdeal.GenP.hostOps7_46 (F := Ideal)) (n := 3) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part35 (List.getElem_mem (l := Cert.ReferenceIdeal.Hand.ops_part35 (F := Ideal)) (n := 24) (by decide))) rfl rfl (by decide) (hx := ⟨by decide, rfl⟩) (hy := ⟨by decide, rfl⟩)
  rw [hk, hr, ← c_main_cst_109__main_cst_377 hag hel]

theorem c_main_v537__main_v1743 : StableHlo.after Cert.KernelIdeal.Hand.KOps (Cert.KernelIdeal.Hand.Wl (F := Ideal) m ρ c) (Proc.devRef .tc Cert.KernelIdeal.main_v537) = StableHlo.after (Cert.ReferenceIdeal.Hand.ops (F := Ideal)) (StableHlo.launchContents m' c) (Proc.devRef .tc Cert.ReferenceIdeal.main_v1743) := by
  have hk := StableHlo.Ascending.eq_binary Cert.KernelIdeal.Hand.KOps_asc (Cert.KernelIdeal.Hand.Wl m ρ c) (Cert.KernelIdeal.Hand.mem_KOps_st7 (Cert.KernelIdeal.Hand.mem_st_7_46 (List.getElem_mem (l := Cert.KernelIdeal.GenP.hostOps7_46 (F := Ideal)) (n := 4) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part35 (List.getElem_mem (l := Cert.ReferenceIdeal.Hand.ops_part35 (F := Ideal)) (n := 25) (by decide))) rfl rfl rfl (by decide) (by decide) (ha := ⟨by decide, rfl⟩) (hb := ⟨by decide, rfl⟩) (hy := ⟨by decide, rfl⟩)
  rw [hk, hr, ← c_main_v536__main_v1742 hag hel, ← c_main_v535__main_v1741 hag hel]

theorem c_main_v538__main_v1744 : StableHlo.after Cert.KernelIdeal.Hand.KOps (Cert.KernelIdeal.Hand.Wl (F := Ideal) m ρ c) (Proc.devRef .tc Cert.KernelIdeal.main_v538) = StableHlo.after (Cert.ReferenceIdeal.Hand.ops (F := Ideal)) (StableHlo.launchContents m' c) (Proc.devRef .tc Cert.ReferenceIdeal.main_v1744) := by
  have hk := StableHlo.Ascending.eq_unary Cert.KernelIdeal.Hand.KOps_asc (Cert.KernelIdeal.Hand.Wl m ρ c) (Cert.KernelIdeal.Hand.mem_KOps_st7 (Cert.KernelIdeal.Hand.mem_st_7_46 (List.getElem_mem (l := Cert.KernelIdeal.GenP.hostOps7_46 (F := Ideal)) (n := 5) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part35 (List.getElem_mem (l := Cert.ReferenceIdeal.Hand.ops_part35 (F := Ideal)) (n := 26) (by decide))) rfl rfl (by decide) (hx := ⟨by decide, rfl⟩) (hy := ⟨by decide, rfl⟩)
  rw [hk, hr, ← c_main_v537__main_v1743 hag hel]

end Cert.Value

end
-- ==== Proof.Val.C016.lean ====
/- Steps C016 of the value claim's chain: for each listed pair, the kernel program's buffer and its reference twin hold equal contents at the two programs' final
   valuations — the two operations are the same function (read off the two operation lists) of operands already paired. A table; written by: bun scratch/corr.js 60 -/
import proofs.«146970_j35948876268088_1_alg».proof.Proof.Val.Seed
import proofs.«146970_j35948876268088_1_alg».proof.Proof.KI.Dots
import Mathlib.Tactic.FinCases
import proofs.«146970_j35948876268088_1_alg».proof.Proof.Val.C008
import proofs.«146970_j35948876268088_1_alg».proof.Proof.Val.C011
import proofs.«146970_j35948876268088_1_alg».proof.Proof.Val.C013
import proofs.«146970_j35948876268088_1_alg».proof.Proof.Val.C015

set_option maxRecDepth 16384

noncomputable section

namespace Cert.Value

open Idealize.ShloMosaic Idealize.ShloMosaic.TcCoe Idealize.SL.Sem

variable {m : (ℓ : Loc Cert.KernelIdeal.nD Cert.KernelIdeal.τ Cert.KernelIdeal.sig) → Buf (Elt Ideal) ℓ} {ρ : Dev Cert.KernelIdeal.nD → PrngReg}
  {m' : (ℓ : Loc Cert.ReferenceIdeal.nD Cert.ReferenceIdeal.τ Cert.ReferenceIdeal.sig) → Buf (Elt Ideal) ℓ} {c : Dev Cert.KernelIdeal.nD} (hag : Agree m m') (hel : Els m' c)
include hag hel

theorem c_main_v539__main_v1745 : StableHlo.after Cert.KernelIdeal.Hand.KOps (Cert.KernelIdeal.Hand.Wl (F := Ideal) m ρ c) (Proc.devRef .tc Cert.KernelIdeal.main_v539) = StableHlo.after (Cert.ReferenceIdeal.Hand.ops (F := Ideal)) (StableHlo.launchContents m' c) (Proc.devRef .tc Cert.ReferenceIdeal.main_v1745) := by
  have hk := StableHlo.Ascending.eq_unary Cert.KernelIdeal.Hand.KOps_asc (Cert.KernelIdeal.Hand.Wl m ρ c) (Cert.KernelIdeal.Hand.mem_KOps_st7 (Cert.KernelIdeal.Hand.mem_st_7_46 (List.getElem_mem (l := Cert.KernelIdeal.GenP.hostOps7_46 (F := Ideal)) (n := 6) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part35 (List.getElem_mem (l := Cert.ReferenceIdeal.Hand.ops_part35 (F := Ideal)) (n := 27) (by decide))) rfl rfl (by decide) (hx := ⟨by decide, rfl⟩) (hy := ⟨by decide, rfl⟩)
  rw [hk, hr, ← c_main_v538__main_v1744 hag hel]

theorem c_main_v540__main_v1746 : StableHlo.after Cert.KernelIdeal.Hand.KOps (Cert.KernelIdeal.Hand.Wl (F := Ideal) m ρ c) (Proc.devRef .tc Cert.KernelIdeal.main_v540) = StableHlo.after (Cert.ReferenceIdeal.Hand.ops (F := Ideal)) (StableHlo.launchContents m' c) (Proc.devRef .tc Cert.ReferenceIdeal.main_v1746) := by
  have hk := StableHlo.Ascending.eq_binary Cert.KernelIdeal.Hand.KOps_asc (Cert.KernelIdeal.Hand.Wl m ρ c) (Cert.KernelIdeal.Hand.mem_KOps_st7 (Cert.KernelIdeal.Hand.mem_st_7_46 (List.getElem_mem (l := Cert.KernelIdeal.GenP.hostOps7_46 (F := Ideal)) (n := 7) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part35 (List.getElem_mem (l := Cert.ReferenceIdeal.Hand.ops_part35 (F := Ideal)) (n := 28) (by decide))) rfl rfl rfl (by decide) (by decide) (ha := ⟨by decide, rfl⟩) (hb := ⟨by decide, rfl⟩) (hy := ⟨by decide, rfl⟩)
  rw [hk, hr, ← c_main_v534__main_v1740 hag hel, ← c_main_v539__main_v1745 hag hel]

theorem c_main_v541__main_v1747 : StableHlo.after Cert.KernelIdeal.Hand.KOps (Cert.KernelIdeal.Hand.Wl (F := Ideal) m ρ c) (Proc.devRef .tc Cert.KernelIdeal.main_v541) = StableHlo.after (Cert.ReferenceIdeal.Hand.ops (F := Ideal)) (StableHlo.launchContents m' c) (Proc.devRef .tc Cert.ReferenceIdeal.main_v1747) := by
  have hk := StableHlo.Ascending.eq_unary Cert.KernelIdeal.Hand.KOps_asc (Cert.KernelIdeal.Hand.Wl m ρ c) (Cert.KernelIdeal.Hand.mem_KOps_st7 (Cert.KernelIdeal.Hand.mem_st_7_46 (List.getElem_mem (l := Cert.KernelIdeal.GenP.hostOps7_46 (F := Ideal)) (n := 8) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part35 (List.getElem_mem (l := Cert.ReferenceIdeal.Hand.ops_part35 (F := Ideal)) (n := 29) (by decide))) rfl rfl (by decide) (hx := ⟨by decide, rfl⟩) (hy := ⟨by decide, rfl⟩)
  rw [hk, hr, ← c_main_v540__main_v1746 hag hel]

theorem c_main_cst_110__main_cst_378 : StableHlo.after Cert.KernelIdeal.Hand.KOps (Cert.KernelIdeal.Hand.Wl (F := Ideal) m ρ c) (Proc.devRef .tc Cert.KernelIdeal.main_cst_110) = StableHlo.after (Cert.ReferenceIdeal.Hand.ops (F := Ideal)) (StableHlo.launchContents m' c) (Proc.devRef .tc Cert.ReferenceIdeal.main_cst_378) := by
  have hk := StableHlo.Ascending.eq_nullary Cert.KernelIdeal.Hand.KOps_asc (Cert.KernelIdeal.Hand.Wl m ρ c) (Cert.KernelIdeal.Hand.mem_KOps_st7 (Cert.KernelIdeal.Hand.mem_st_7_46 (List.getElem_mem (l := Cert.KernelIdeal.GenP.hostOps7_46 (F := Ideal)) (n := 9) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part35 (List.getElem_mem (l := Cert.ReferenceIdeal.Hand.ops_part35 (F := Ideal)) (n := 30) (by decide))) rfl (hy := ⟨by decide, rfl⟩)
  rw [hk, hr]

theorem c_main_v542__main_v1748 : StableHlo.after Cert.KernelIdeal.Hand.KOps (Cert.KernelIdeal.Hand.Wl (F := Ideal) m ρ c) (Proc.devRef .tc Cert.KernelIdeal.main_v542) = StableHlo.after (Cert.ReferenceIdeal.Hand.ops (F := Ideal)) (StableHlo.launchContents m' c) (Proc.devRef .tc Cert.ReferenceIdeal.main_v1748) := by
  have hk := StableHlo.Ascending.eq_binary Cert.KernelIdeal.Hand.KOps_asc (Cert.KernelIdeal.Hand.Wl m ρ c) (Cert.KernelIdeal.Hand.mem_KOps_st7 (Cert.KernelIdeal.Hand.mem_st_7_46 (List.getElem_mem (l := Cert.KernelIdeal.GenP.hostOps7_46 (F := Ideal)) (n := 10) (by decide)))) rfl rfl rfl (by decide) (by decide) (a := Cert.KernelIdeal.main_v541) (b := Cert.KernelIdeal.main_cst_110) (y := Cert.KernelIdeal.main_v542) (f := open Cert.KernelIdeal Cert.KernelIdeal.Gen in (fun x v => Host.reduceAdd (F := Ideal) x v reducesTo_S2048x2048_S2048_d1 h_S_)) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part35 (List.getElem_mem (l := Cert.ReferenceIdeal.Hand.ops_part35 (F := Ideal)) (n := 31) (by decide))) rfl rfl rfl (by decide) (by decide) (a := Cert.ReferenceIdeal.main_v1747) (b := Cert.ReferenceIdeal.main_cst_378) (y := Cert.ReferenceIdeal.main_v1748) (f := open Cert.ReferenceIdeal Cert.ReferenceIdeal.Gen in (fun x v => Host.reduceAdd (F := Ideal) x v reducesTo_S2048x2048_S2048_d1 h_S_)) (ha := ⟨by decide, rfl⟩) (hb := ⟨by decide, rfl⟩) (hy := ⟨by decide, rfl⟩)
  rw [hk, hr, ← c_main_v541__main_v1747 hag hel, ← c_main_cst_110__main_cst_378 hag hel]

theorem c_main_v543__main_v1749 : StableHlo.after Cert.KernelIdeal.Hand.KOps (Cert.KernelIdeal.Hand.Wl (F := Ideal) m ρ c) (Proc.devRef .tc Cert.KernelIdeal.main_v543) = StableHlo.after (Cert.ReferenceIdeal.Hand.ops (F := Ideal)) (StableHlo.launchContents m' c) (Proc.devRef .tc Cert.ReferenceIdeal.main_v1749) := by
  have hk := StableHlo.Ascending.eq_unary Cert.KernelIdeal.Hand.KOps_asc (Cert.KernelIdeal.Hand.Wl m ρ c) (Cert.KernelIdeal.Hand.mem_KOps_st7 (Cert.KernelIdeal.Hand.mem_st_7_46 (List.getElem_mem (l := Cert.KernelIdeal.GenP.hostOps7_46 (F := Ideal)) (n := 11) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part35 (List.getElem_mem (l := Cert.ReferenceIdeal.Hand.ops_part35 (F := Ideal)) (n := 32) (by decide))) rfl rfl (by decide) (hx := ⟨by decide, rfl⟩) (hy := ⟨by decide, rfl⟩)
  rw [hk, hr, ← c_main_v542__main_v1748 hag hel]

theorem c_main_v544__main_v1750 : StableHlo.after Cert.KernelIdeal.Hand.KOps (Cert.KernelIdeal.Hand.Wl (F := Ideal) m ρ c) (Proc.devRef .tc Cert.KernelIdeal.main_v544) = StableHlo.after (Cert.ReferenceIdeal.Hand.ops (F := Ideal)) (StableHlo.launchContents m' c) (Proc.devRef .tc Cert.ReferenceIdeal.main_v1750) := by
  have hk := StableHlo.Ascending.eq_unary Cert.KernelIdeal.Hand.KOps_asc (Cert.KernelIdeal.Hand.Wl m ρ c) (Cert.KernelIdeal.Hand.mem_KOps_st7 (Cert.KernelIdeal.Hand.mem_st_7_46 (List.getElem_mem (l := Cert.KernelIdeal.GenP.hostOps7_46 (F := Ideal)) (n := 12) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part35 (List.getElem_mem (l := Cert.ReferenceIdeal.Hand.ops_part35 (F := Ideal)) (n := 33) (by decide))) rfl rfl (by decide) (hx := ⟨by decide, rfl⟩) (hy := ⟨by decide, rfl⟩)
  rw [hk, hr, ← c_main_v543__main_v1749 hag hel]

theorem c_main_v545__main_v1751 : StableHlo.after Cert.KernelIdeal.Hand.KOps (Cert.KernelIdeal.Hand.Wl (F := Ideal) m ρ c) (Proc.devRef .tc Cert.KernelIdeal.main_v545) = StableHlo.after (Cert.ReferenceIdeal.Hand.ops (F := Ideal)) (StableHlo.launchContents m' c) (Proc.devRef .tc Cert.ReferenceIdeal.main_v1751) := by
  have hk := StableHlo.Ascending.eq_binary Cert.KernelIdeal.Hand.KOps_asc (Cert.KernelIdeal.Hand.Wl m ρ c) (Cert.KernelIdeal.Hand.mem_KOps_st7 (Cert.KernelIdeal.Hand.mem_st_7_46 (List.getElem_mem (l := Cert.KernelIdeal.GenP.hostOps7_46 (F := Ideal)) (n := 13) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part35 (List.getElem_mem (l := Cert.ReferenceIdeal.Hand.ops_part35 (F := Ideal)) (n := 34) (by decide))) rfl rfl rfl (by decide) (by decide) (ha := ⟨by decide, rfl⟩) (hb := ⟨by decide, rfl⟩) (hy := ⟨by decide, rfl⟩)
  rw [hk, hr, ← c_main_v541__main_v1747 hag hel, ← c_main_v544__main_v1750 hag hel]

theorem c_main_v546__main_v1752 : StableHlo.after Cert.KernelIdeal.Hand.KOps (Cert.KernelIdeal.Hand.Wl (F := Ideal) m ρ c) (Proc.devRef .tc Cert.KernelIdeal.main_v546) = StableHlo.after (Cert.ReferenceIdeal.Hand.ops (F := Ideal)) (StableHlo.launchContents m' c) (Proc.devRef .tc Cert.ReferenceIdeal.main_v1752) := by
  have hk := StableHlo.Ascending.eq_unary Cert.KernelIdeal.Hand.KOps_asc (Cert.KernelIdeal.Hand.Wl m ρ c) (Cert.KernelIdeal.Hand.mem_KOps_st7 (Cert.KernelIdeal.Hand.mem_st_7_46 (List.getElem_mem (l := Cert.KernelIdeal.GenP.hostOps7_46 (F := Ideal)) (n := 14) (by decide)))) rfl rfl (by decide) (x := Cert.KernelIdeal.main_v545) (y := Cert.KernelIdeal.main_v546) (f := open Cert.KernelIdeal Cert.KernelIdeal.Gen in (transpose S2048x2048 [1, 0] · transposes_S2048x2048_S2048x2048_1_0)) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part35 (List.getElem_mem (l := Cert.ReferenceIdeal.Hand.ops_part35 (F := Ideal)) (n := 35) (by decide))) rfl rfl (by decide) (x := Cert.ReferenceIdeal.main_v1751) (y := Cert.ReferenceIdeal.main_v1752) (f := open Cert.ReferenceIdeal Cert.ReferenceIdeal.Gen in (transpose S2048x2048 [1, 0] · transposes_S2048x2048_S2048x2048_1_0)) (hx := ⟨by decide, rfl⟩) (hy := ⟨by decide, rfl⟩)
  rw [hk, hr, ← c_main_v545__main_v1751 hag hel]

theorem c_main_v547__main_v1753 : StableHlo.after Cert.KernelIdeal.Hand.KOps (Cert.KernelIdeal.Hand.Wl (F := Ideal) m ρ c) (Proc.devRef .tc Cert.KernelIdeal.main_v547) = StableHlo.after (Cert.ReferenceIdeal.Hand.ops (F := Ideal)) (StableHlo.launchContents m' c) (Proc.devRef .tc Cert.ReferenceIdeal.main_v1753) := by
  have hk := StableHlo.Ascending.eq_binary Cert.KernelIdeal.Hand.KOps_asc (Cert.KernelIdeal.Hand.Wl m ρ c) (Cert.KernelIdeal.Hand.mem_KOps_st7 (Cert.KernelIdeal.Hand.mem_st_7_46 (List.getElem_mem (l := Cert.KernelIdeal.GenP.hostOps7_46 (F := Ideal)) (n := 15) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part35 (List.getElem_mem (l := Cert.ReferenceIdeal.Hand.ops_part35 (F := Ideal)) (n := 36) (by decide))) rfl rfl rfl (by decide) (by decide) (ha := ⟨by decide, rfl⟩) (hb := ⟨by decide, rfl⟩) (hy := ⟨by decide, rfl⟩)
  rw [hk, hr, ← c_main_v546__main_v1752 hag hel, ← c_main_v507__main_v1712 hag hel]
  rfl

theorem c_main_call24_cst__main_call83_cst : StableHlo.after Cert.KernelIdeal.Hand.KOps (Cert.KernelIdeal.Hand.Wl (F := Ideal) m ρ c) (Proc.devRef .tc Cert.KernelIdeal.main_call24_cst) = StableHlo.after (Cert.ReferenceIdeal.Hand.ops (F := Ideal)) (StableHlo.launchContents m' c) (Proc.devRef .tc Cert.ReferenceIdeal.main_call83_cst) := by
  have hk := StableHlo.Ascending.eq_nullary Cert.KernelIdeal.Hand.KOps_asc (Cert.KernelIdeal.Hand.Wl m ρ c) (Cert.KernelIdeal.Hand.mem_KOps_st7 (Cert.KernelIdeal.Hand.mem_st_7_47 (List.getElem_mem (l := Cert.KernelIdeal.GenP.hostOps7_47 (F := Ideal)) (n := 0) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part35 (List.getElem_mem (l := Cert.ReferenceIdeal.Hand.ops_part35 (F := Ideal)) (n := 37) (by decide))) rfl (hy := ⟨by decide, rfl⟩)
  rw [hk, hr]

theorem c_main_call24_v0__main_call83_v0 : StableHlo.after Cert.KernelIdeal.Hand.KOps (Cert.KernelIdeal.Hand.Wl (F := Ideal) m ρ c) (Proc.devRef .tc Cert.KernelIdeal.main_call24_v0) = StableHlo.after (Cert.ReferenceIdeal.Hand.ops (F := Ideal)) (StableHlo.launchContents m' c) (Proc.devRef .tc Cert.ReferenceIdeal.main_call83_v0) := by
  have hk := StableHlo.Ascending.eq_unary Cert.KernelIdeal.Hand.KOps_asc (Cert.KernelIdeal.Hand.Wl m ρ c) (Cert.KernelIdeal.Hand.mem_KOps_st7 (Cert.KernelIdeal.Hand.mem_st_7_47 (List.getElem_mem (l := Cert.KernelIdeal.GenP.hostOps7_47 (F := Ideal)) (n := 1) (by decide)))) rfl rfl (by decide) (x := Cert.KernelIdeal.main_call24_cst) (y := Cert.KernelIdeal.main_call24_v0) (f := open Cert.KernelIdeal Cert.KernelIdeal.Gen in (broadcastInDim S2048x8 ![] bcast_S_S2048x8)) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part35 (List.getElem_mem (l := Cert.ReferenceIdeal.Hand.ops_part35 (F := Ideal)) (n := 38) (by decide))) rfl rfl (by decide) (x := Cert.ReferenceIdeal.main_call83_cst) (y := Cert.ReferenceIdeal.main_call83_v0) (f := open Cert.ReferenceIdeal Cert.ReferenceIdeal.Gen in (broadcastInDim S2048x8 ![] bcast_S_S2048x8)) (hx := ⟨by decide, rfl⟩) (hy := ⟨by decide, rfl⟩)
  rw [hk, hr, ← c_main_call24_cst__main_call83_cst hag hel]

theorem c_main_call24_v1__main_call83_v1 : StableHlo.after Cert.KernelIdeal.Hand.KOps (Cert.KernelIdeal.Hand.Wl (F := Ideal) m ρ c) (Proc.devRef .tc Cert.KernelIdeal.main_call24_v1) = StableHlo.after (Cert.ReferenceIdeal.Hand.ops (F := Ideal)) (StableHlo.launchContents m' c) (Proc.devRef .tc Cert.ReferenceIdeal.main_call83_v1) := by
  have hk := StableHlo.Ascending.eq_binary Cert.KernelIdeal.Hand.KOps_asc (Cert.KernelIdeal.Hand.Wl m ρ c) (Cert.KernelIdeal.Hand.mem_KOps_st7 (Cert.KernelIdeal.Hand.mem_st_7_47 (List.getElem_mem (l := Cert.KernelIdeal.GenP.hostOps7_47 (F := Ideal)) (n := 2) (by decide)))) rfl rfl rfl (by decide) (by decide) (a := Cert.KernelIdeal.main_v547) (b := Cert.KernelIdeal.main_call24_v0) (y := Cert.KernelIdeal.main_call24_v1) (f := open Cert.KernelIdeal Cert.KernelIdeal.Gen in (cmpf (F := Ideal) .ogt)) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part35 (List.getElem_mem (l := Cert.ReferenceIdeal.Hand.ops_part35 (F := Ideal)) (n := 39) (by decide))) rfl rfl rfl (by decide) (by decide) (a := Cert.ReferenceIdeal.main_v1753) (b := Cert.ReferenceIdeal.main_call83_v0) (y := Cert.ReferenceIdeal.main_call83_v1) (f := open Cert.ReferenceIdeal Cert.ReferenceIdeal.Gen in (cmpf (F := Ideal) .ogt)) (ha := ⟨by decide, rfl⟩) (hb := ⟨by decide, rfl⟩) (hy := ⟨by decide, rfl⟩)
  rw [hk, hr, ← c_main_v547__main_v1753 hag hel, ← c_main_call24_v0__main_call83_v0 hag hel]

theorem c_main_call24_cst_0__main_call83_cst_0 : StableHlo.after Cert.KernelIdeal.Hand.KOps (Cert.KernelIdeal.Hand.Wl (F := Ideal) m ρ c) (Proc.devRef .tc Cert.KernelIdeal.main_call24_cst_0) = StableHlo.after (Cert.ReferenceIdeal.Hand.ops (F := Ideal)) (StableHlo.launchContents m' c) (Proc.devRef .tc Cert.ReferenceIdeal.main_call83_cst_0) := by
  have hk := StableHlo.Ascending.eq_nullary Cert.KernelIdeal.Hand.KOps_asc (Cert.KernelIdeal.Hand.Wl m ρ c) (Cert.KernelIdeal.Hand.mem_KOps_st7 (Cert.KernelIdeal.Hand.mem_st_7_47 (List.getElem_mem (l := Cert.KernelIdeal.GenP.hostOps7_47 (F := Ideal)) (n := 3) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part35 (List.getElem_mem (l := Cert.ReferenceIdeal.Hand.ops_part35 (F := Ideal)) (n := 40) (by decide))) rfl (hy := ⟨by decide, rfl⟩)
  rw [hk, hr]

theorem c_main_call24_v2__main_call83_v2 : StableHlo.after Cert.KernelIdeal.Hand.KOps (Cert.KernelIdeal.Hand.Wl (F := Ideal) m ρ c) (Proc.devRef .tc Cert.KernelIdeal.main_call24_v2) = StableHlo.after (Cert.ReferenceIdeal.Hand.ops (F := Ideal)) (StableHlo.launchContents m' c) (Proc.devRef .tc Cert.ReferenceIdeal.main_call83_v2) := by
  have hk := StableHlo.Ascending.eq_unary Cert.KernelIdeal.Hand.KOps_asc (Cert.KernelIdeal.Hand.Wl m ρ c) (Cert.KernelIdeal.Hand.mem_KOps_st7 (Cert.KernelIdeal.Hand.mem_st_7_47 (List.getElem_mem (l := Cert.KernelIdeal.GenP.hostOps7_47 (F := Ideal)) (n := 4) (by decide)))) rfl rfl (by decide) (x := Cert.KernelIdeal.main_call24_cst_0) (y := Cert.KernelIdeal.main_call24_v2) (f := open Cert.KernelIdeal Cert.KernelIdeal.Gen in (broadcastInDim S2048x8 ![] bcast_S_S2048x8)) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part35 (List.getElem_mem (l := Cert.ReferenceIdeal.Hand.ops_part35 (F := Ideal)) (n := 41) (by decide))) rfl rfl (by decide) (x := Cert.ReferenceIdeal.main_call83_cst_0) (y := Cert.ReferenceIdeal.main_call83_v2) (f := open Cert.ReferenceIdeal Cert.ReferenceIdeal.Gen in (broadcastInDim S2048x8 ![] bcast_S_S2048x8)) (hx := ⟨by decide, rfl⟩) (hy := ⟨by decide, rfl⟩)
  rw [hk, hr, ← c_main_call24_cst_0__main_call83_cst_0 hag hel]

theorem c_main_call24_v3__main_call83_v3 : StableHlo.after Cert.KernelIdeal.Hand.KOps (Cert.KernelIdeal.Hand.Wl (F := Ideal) m ρ c) (Proc.devRef .tc Cert.KernelIdeal.main_call24_v3) = StableHlo.after (Cert.ReferenceIdeal.Hand.ops (F := Ideal)) (StableHlo.launchContents m' c) (Proc.devRef .tc Cert.ReferenceIdeal.main_call83_v3) := by
  have hk := StableHlo.Ascending.eq_binary Cert.KernelIdeal.Hand.KOps_asc (Cert.KernelIdeal.Hand.Wl m ρ c) (Cert.KernelIdeal.Hand.mem_KOps_st7 (Cert.KernelIdeal.Hand.mem_st_7_47 (List.getElem_mem (l := Cert.KernelIdeal.GenP.hostOps7_47 (F := Ideal)) (n := 5) (by decide)))) rfl rfl rfl (by decide) (by decide) (a := Cert.KernelIdeal.main_v547) (b := Cert.KernelIdeal.main_call24_v2) (y := Cert.KernelIdeal.main_call24_v3) (f := open Cert.KernelIdeal Cert.KernelIdeal.Gen in (cmpf (F := Ideal) .ogt)) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part35 (List.getElem_mem (l := Cert.ReferenceIdeal.Hand.ops_part35 (F := Ideal)) (n := 42) (by decide))) rfl rfl rfl (by decide) (by decide) (a := Cert.ReferenceIdeal.main_v1753) (b := Cert.ReferenceIdeal.main_call83_v2) (y := Cert.ReferenceIdeal.main_call83_v3) (f := open Cert.ReferenceIdeal Cert.ReferenceIdeal.Gen in (cmpf (F := Ideal) .ogt)) (ha := ⟨by decide, rfl⟩) (hb := ⟨by decide, rfl⟩) (hy := ⟨by decide, rfl⟩)
  rw [hk, hr, ← c_main_v547__main_v1753 hag hel, ← c_main_call24_v2__main_call83_v2 hag hel]

theorem c_main_call24_cst_1__main_call83_cst_1 : StableHlo.after Cert.KernelIdeal.Hand.KOps (Cert.KernelIdeal.Hand.Wl (F := Ideal) m ρ c) (Proc.devRef .tc Cert.KernelIdeal.main_call24_cst_1) = StableHlo.after (Cert.ReferenceIdeal.Hand.ops (F := Ideal)) (StableHlo.launchContents m' c) (Proc.devRef .tc Cert.ReferenceIdeal.main_call83_cst_1) := by
  have hk := StableHlo.Ascending.eq_nullary Cert.KernelIdeal.Hand.KOps_asc (Cert.KernelIdeal.Hand.Wl m ρ c) (Cert.KernelIdeal.Hand.mem_KOps_st7 (Cert.KernelIdeal.Hand.mem_st_7_47 (List.getElem_mem (l := Cert.KernelIdeal.GenP.hostOps7_47 (F := Ideal)) (n := 6) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part35 (List.getElem_mem (l := Cert.ReferenceIdeal.Hand.ops_part35 (F := Ideal)) (n := 43) (by decide))) rfl (hy := ⟨by decide, rfl⟩)
  rw [hk, hr]

theorem c_main_call24_call0_v0__main_call83_call0_v0 : StableHlo.after Cert.KernelIdeal.Hand.KOps (Cert.KernelIdeal.Hand.Wl (F := Ideal) m ρ c) (Proc.devRef .tc Cert.KernelIdeal.main_call24_call0_v0) = StableHlo.after (Cert.ReferenceIdeal.Hand.ops (F := Ideal)) (StableHlo.launchContents m' c) (Proc.devRef .tc Cert.ReferenceIdeal.main_call83_call0_v0) := by
  have hk := StableHlo.Ascending.eq_unary Cert.KernelIdeal.Hand.KOps_asc (Cert.KernelIdeal.Hand.Wl m ρ c) (Cert.KernelIdeal.Hand.mem_KOps_st7 (Cert.KernelIdeal.Hand.mem_st_7_47 (List.getElem_mem (l := Cert.KernelIdeal.GenP.hostOps7_47 (F := Ideal)) (n := 7) (by decide)))) rfl rfl (by decide) (x := Cert.KernelIdeal.main_call24_cst_1) (y := Cert.KernelIdeal.main_call24_call0_v0) (f := open Cert.KernelIdeal Cert.KernelIdeal.Gen in id) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part35 (List.getElem_mem (l := Cert.ReferenceIdeal.Hand.ops_part35 (F := Ideal)) (n := 44) (by decide))) rfl rfl (by decide) (x := Cert.ReferenceIdeal.main_call83_cst_1) (y := Cert.ReferenceIdeal.main_call83_call0_v0) (f := open Cert.ReferenceIdeal Cert.ReferenceIdeal.Gen in id) (hx := ⟨by decide, rfl⟩) (hy := ⟨by decide, rfl⟩)
  rw [hk, hr, ← c_main_call24_cst_1__main_call83_cst_1 hag hel]

theorem c_main_call24_call0_v1__main_call83_call0_v1 : StableHlo.after Cert.KernelIdeal.Hand.KOps (Cert.KernelIdeal.Hand.Wl (F := Ideal) m ρ c) (Proc.devRef .tc Cert.KernelIdeal.main_call24_call0_v1) = StableHlo.after (Cert.ReferenceIdeal.Hand.ops (F := Ideal)) (StableHlo.launchContents m' c) (Proc.devRef .tc Cert.ReferenceIdeal.main_call83_call0_v1) := by
  have hk := StableHlo.Ascending.eq_unary Cert.KernelIdeal.Hand.KOps_asc (Cert.KernelIdeal.Hand.Wl m ρ c) (Cert.KernelIdeal.Hand.mem_KOps_st7 (Cert.KernelIdeal.Hand.mem_st_7_47 (List.getElem_mem (l := Cert.KernelIdeal.GenP.hostOps7_47 (F := Ideal)) (n := 8) (by decide)))) rfl rfl (by decide) (x := Cert.KernelIdeal.main_call24_call0_v0) (y := Cert.KernelIdeal.main_call24_call0_v1) (f := open Cert.KernelIdeal Cert.KernelIdeal.Gen in (broadcastInDim S2048x8 ![] bcast_S_S2048x8)) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part35 (List.getElem_mem (l := Cert.ReferenceIdeal.Hand.ops_part35 (F := Ideal)) (n := 45) (by decide))) rfl rfl (by decide) (x := Cert.ReferenceIdeal.main_call83_call0_v0) (y := Cert.ReferenceIdeal.main_call83_call0_v1) (f := open Cert.ReferenceIdeal Cert.ReferenceIdeal.Gen in (broadcastInDim S2048x8 ![] bcast_S_S2048x8)) (hx := ⟨by decide, rfl⟩) (hy := ⟨by decide, rfl⟩)
  rw [hk, hr, ← c_main_call24_call0_v0__main_call83_call0_v0 hag hel]

theorem c_main_call24_v4__main_call83_v4 : StableHlo.after Cert.KernelIdeal.Hand.KOps (Cert.KernelIdeal.Hand.Wl (F := Ideal) m ρ c) (Proc.devRef .tc Cert.KernelIdeal.main_call24_v4) = StableHlo.after (Cert.ReferenceIdeal.Hand.ops (F := Ideal)) (StableHlo.launchContents m' c) (Proc.devRef .tc Cert.ReferenceIdeal.main_call83_v4) := by
  have hk := StableHlo.Ascending.eq_ternary Cert.KernelIdeal.Hand.KOps_asc (Cert.KernelIdeal.Hand.Wl m ρ c) (Cert.KernelIdeal.Hand.mem_KOps_st7 (Cert.KernelIdeal.Hand.mem_st_7_47 (List.getElem_mem (l := Cert.KernelIdeal.GenP.hostOps7_47 (F := Ideal)) (n := 9) (by decide)))) rfl rfl rfl rfl (by decide) (by decide) (by decide) (c := Cert.KernelIdeal.main_call24_v3) (a := Cert.KernelIdeal.main_call24_call0_v1) (b := Cert.KernelIdeal.main_v547) (y := Cert.KernelIdeal.main_call24_v4) (f := (select : (⟨Cert.KernelIdeal.S2048x8, .i1⟩ : BufTy).Contents (Elt Ideal) → (⟨Cert.KernelIdeal.S2048x8, .f32⟩ : BufTy).Contents (Elt Ideal) → (⟨Cert.KernelIdeal.S2048x8, .f32⟩ : BufTy).Contents (Elt Ideal) → (⟨Cert.KernelIdeal.S2048x8, .f32⟩ : BufTy).Contents (Elt Ideal))) (hc := ⟨by decide, rfl⟩) (ha := ⟨by decide, rfl⟩) (hb := ⟨by decide, rfl⟩) (hy := ⟨by decide, rfl⟩)
  have hr := StableHlo.Ascending.eq_ternary (Cert.ReferenceIdeal.Hand.ops_asc (F := Ideal)) (StableHlo.launchContents m' c) (Cert.ReferenceIdeal.Hand.mem_ops_part35 (List.getElem_mem (l := Cert.ReferenceIdeal.Hand.ops_part35 (F := Ideal)) (n := 46) (by decide))) rfl rfl rfl rfl (by decide) (by decide) (by decide) (c := Cert.ReferenceIdeal.main_call83_v3) (a := Cert.ReferenceIdeal.main_call83_call0_v1) (b := Cert.ReferenceIdeal.main_v1753) (y := Cert.ReferenceIdeal.main_call83_v4) (f := (select : (⟨Cert.ReferenceIdeal.S2048x8, .i1⟩ : BufTy).Contents (Elt Ideal) → (⟨Cert.ReferenceIdeal.S2048x8, .f32⟩ : BufTy).Contents (Elt Ideal) → (⟨Cert.ReferenceIdeal.S2048x8, .f32⟩ : BufTy).Contents (Elt Ideal) → (⟨Cert.ReferenceIdeal.S2048x8, .f32⟩ : BufTy).Contents (Elt Ideal))) (hc := ⟨by decide, rfl⟩) (ha := ⟨by decide, rfl⟩) (hb := ⟨by decide, rfl⟩) (hy := ⟨by decide, rfl⟩)
  rw [hk, hr, ← c_main_call24_v3__main_call83_v3 hag hel, ← c_main_call24_call0_v1__main_call83_call0_v1 hag hel, ← c_main_v547__main_v1753 hag hel]

theorem c_main_call24_v5__main_call83_v5 : StableHlo.after Cert.KernelIdeal.Hand.KOps (Cert.KernelIdeal.Hand.Wl (F := Ideal) m ρ c) (Proc.devRef .tc Cert.KernelIdeal.main_call24_v5) = StableHlo.after (Cert.ReferenceIdeal.Hand.ops (F := Ideal)) (StableHlo.launchContents m' c) (Proc.devRef .tc Cert.ReferenceIdeal.main_call83_v5) := by
  have hk := StableHlo.Ascending.eq_unary Cert.KernelIdeal.Hand.KOps_asc (Cert.KernelIdeal.Hand.Wl m ρ c) (Cert.KernelIdeal.Hand.mem_KOps_st7 (Cert.KernelIdeal.Hand.mem_st_7_47 (List.getElem_mem (l := Cert.KernelIdeal.GenP.hostOps7_47 (F := Ideal)) (n := 10) (by decide)))) rfl rfl (by decide) (x := Cert.KernelIdeal.main_call24_v4) (y := Cert.KernelIdeal.main_call24_v5) (f := open Cert.KernelIdeal Cert.KernelIdeal.Gen in Host.expm1 (F := Ideal)) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part35 (List.getElem_mem (l := Cert.ReferenceIdeal.Hand.ops_part35 (F := Ideal)) (n := 47) (by decide))) rfl rfl (by decide) (x := Cert.ReferenceIdeal.main_call83_v4) (y := Cert.ReferenceIdeal.main_call83_v5) (f := open Cert.ReferenceIdeal Cert.ReferenceIdeal.Gen in Host.expm1 (F := Ideal)) (hx := ⟨by decide, rfl⟩) (hy := ⟨by decide, rfl⟩)
  rw [hk, hr, ← c_main_call24_v4__main_call83_v4 hag hel]

theorem c_main_call24_cst_2__main_call83_cst_2 : StableHlo.after Cert.KernelIdeal.Hand.KOps (Cert.KernelIdeal.Hand.Wl (F := Ideal) m ρ c) (Proc.devRef .tc Cert.KernelIdeal.main_call24_cst_2) = StableHlo.after (Cert.ReferenceIdeal.Hand.ops (F := Ideal)) (StableHlo.launchContents m' c) (Proc.devRef .tc Cert.ReferenceIdeal.main_call83_cst_2) := by
  have hk := StableHlo.Ascending.eq_nullary Cert.KernelIdeal.Hand.KOps_asc (Cert.KernelIdeal.Hand.Wl m ρ c) (Cert.KernelIdeal.Hand.mem_KOps_st7 (Cert.KernelIdeal.Hand.mem_st_7_47 (List.getElem_mem (l := Cert.KernelIdeal.GenP.hostOps7_47 (F := Ideal)) (n := 11) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part35 (List.getElem_mem (l := Cert.ReferenceIdeal.Hand.ops_part35 (F := Ideal)) (n := 48) (by decide))) rfl (hy := ⟨by decide, rfl⟩)
  rw [hk, hr]

theorem c_main_call24_v6__main_call83_v6 : StableHlo.after Cert.KernelIdeal.Hand.KOps (Cert.KernelIdeal.Hand.Wl (F := Ideal) m ρ c) (Proc.devRef .tc Cert.KernelIdeal.main_call24_v6) = StableHlo.after (Cert.ReferenceIdeal.Hand.ops (F := Ideal)) (StableHlo.launchContents m' c) (Proc.devRef .tc Cert.ReferenceIdeal.main_call83_v6) := by
  have hk := StableHlo.Ascending.eq_unary Cert.KernelIdeal.Hand.KOps_asc (Cert.KernelIdeal.Hand.Wl m ρ c) (Cert.KernelIdeal.Hand.mem_KOps_st7 (Cert.KernelIdeal.Hand.mem_st_7_47 (List.getElem_mem (l := Cert.KernelIdeal.GenP.hostOps7_47 (F := Ideal)) (n := 12) (by decide)))) rfl rfl (by decide) (x := Cert.KernelIdeal.main_call24_cst_2) (y := Cert.KernelIdeal.main_call24_v6) (f := open Cert.KernelIdeal Cert.KernelIdeal.Gen in (broadcastInDim S2048x8 ![] bcast_S_S2048x8)) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part35 (List.getElem_mem (l := Cert.ReferenceIdeal.Hand.ops_part35 (F := Ideal)) (n := 49) (by decide))) rfl rfl (by decide) (x := Cert.ReferenceIdeal.main_call83_cst_2) (y := Cert.ReferenceIdeal.main_call83_v6) (f := open Cert.ReferenceIdeal Cert.ReferenceIdeal.Gen in (broadcastInDim S2048x8 ![] bcast_S_S2048x8)) (hx := ⟨by decide, rfl⟩) (hy := ⟨by decide, rfl⟩)
  rw [hk, hr, ← c_main_call24_cst_2__main_call83_cst_2 hag hel]

theorem c_main_call24_v7__main_call83_v7 : StableHlo.after Cert.KernelIdeal.Hand.KOps (Cert.KernelIdeal.Hand.Wl (F := Ideal) m ρ c) (Proc.devRef .tc Cert.KernelIdeal.main_call24_v7) = StableHlo.after (Cert.ReferenceIdeal.Hand.ops (F := Ideal)) (StableHlo.launchContents m' c) (Proc.devRef .tc Cert.ReferenceIdeal.main_call83_v7) := by
  have hk := StableHlo.Ascending.eq_binary Cert.KernelIdeal.Hand.KOps_asc (Cert.KernelIdeal.Hand.Wl m ρ c) (Cert.KernelIdeal.Hand.mem_KOps_st7 (Cert.KernelIdeal.Hand.mem_st_7_47 (List.getElem_mem (l := Cert.KernelIdeal.GenP.hostOps7_47 (F := Ideal)) (n := 13) (by decide)))) rfl rfl rfl (by decide) (by decide) (a := Cert.KernelIdeal.main_call24_v6) (b := Cert.KernelIdeal.main_call24_v5) (y := Cert.KernelIdeal.main_call24_v7) (f := open Cert.KernelIdeal Cert.KernelIdeal.Gen in mulf (F := Ideal)) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part35 (List.getElem_mem (l := Cert.ReferenceIdeal.Hand.ops_part35 (F := Ideal)) (n := 50) (by decide))) rfl rfl rfl (by decide) (by decide) (a := Cert.ReferenceIdeal.main_call83_v6) (b := Cert.ReferenceIdeal.main_call83_v5) (y := Cert.ReferenceIdeal.main_call83_v7) (f := open Cert.ReferenceIdeal Cert.ReferenceIdeal.Gen in mulf (F := Ideal)) (ha := ⟨by decide, rfl⟩) (hb := ⟨by decide, rfl⟩) (hy := ⟨by decide, rfl⟩)
  rw [hk, hr, ← c_main_call24_v6__main_call83_v6 hag hel, ← c_main_call24_v5__main_call83_v5 hag hel]

theorem c_main_v548__main_v1754 : StableHlo.after Cert.KernelIdeal.Hand.KOps (Cert.KernelIdeal.Hand.Wl (F := Ideal) m ρ c) (Proc.devRef .tc Cert.KernelIdeal.main_v548) = StableHlo.after (Cert.ReferenceIdeal.Hand.ops (F := Ideal)) (StableHlo.launchContents m' c) (Proc.devRef .tc Cert.ReferenceIdeal.main_v1754) := by
  have hk := StableHlo.Ascending.eq_ternary Cert.KernelIdeal.Hand.KOps_asc (Cert.KernelIdeal.Hand.Wl m ρ c) (Cert.KernelIdeal.Hand.mem_KOps_st7 (Cert.KernelIdeal.Hand.mem_st_7_47 (List.getElem_mem (l := Cert.KernelIdeal.GenP.hostOps7_47 (F := Ideal)) (n := 14) (by decide)))) rfl rfl rfl rfl (by decide) (by decide) (by decide) (c := Cert.KernelIdeal.main_call24_v1) (a := Cert.KernelIdeal.main_v547) (b := Cert.KernelIdeal.main_call24_v7) (y := Cert.KernelIdeal.main_v548) (f := (select : (⟨Cert.KernelIdeal.S2048x8, .i1⟩ : BufTy).Contents (Elt Ideal) → (⟨Cert.KernelIdeal.S2048x8, .f32⟩ : BufTy).Contents (Elt Ideal) → (⟨Cert.KernelIdeal.S2048x8, .f32⟩ : BufTy).Contents (Elt Ideal) → (⟨Cert.KernelIdeal.S2048x8, .f32⟩ : BufTy).Contents (Elt Ideal))) (hc := ⟨by decide, rfl⟩) (ha := ⟨by decide, rfl⟩) (hb := ⟨by decide, rfl⟩) (hy := ⟨by decide, rfl⟩)
  have hr := StableHlo.Ascending.eq_ternary (Cert.ReferenceIdeal.Hand.ops_asc (F := Ideal)) (StableHlo.launchContents m' c) (Cert.ReferenceIdeal.Hand.mem_ops_part35 (List.getElem_mem (l := Cert.ReferenceIdeal.Hand.ops_part35 (F := Ideal)) (n := 51) (by decide))) rfl rfl rfl rfl (by decide) (by decide) (by decide) (c := Cert.ReferenceIdeal.main_call83_v1) (a := Cert.ReferenceIdeal.main_v1753) (b := Cert.ReferenceIdeal.main_call83_v7) (y := Cert.ReferenceIdeal.main_v1754) (f := (select : (⟨Cert.ReferenceIdeal.S2048x8, .i1⟩ : BufTy).Contents (Elt Ideal) → (⟨Cert.ReferenceIdeal.S2048x8, .f32⟩ : BufTy).Contents (Elt Ideal) → (⟨Cert.ReferenceIdeal.S2048x8, .f32⟩ : BufTy).Contents (Elt Ideal) → (⟨Cert.ReferenceIdeal.S2048x8, .f32⟩ : BufTy).Contents (Elt Ideal))) (hc := ⟨by decide, rfl⟩) (ha := ⟨by decide, rfl⟩) (hb := ⟨by decide, rfl⟩) (hy := ⟨by decide, rfl⟩)
  rw [hk, hr, ← c_main_call24_v1__main_call83_v1 hag hel, ← c_main_v547__main_v1753 hag hel, ← c_main_call24_v7__main_call83_v7 hag hel]

theorem c_main_v549__main_v1755 : StableHlo.after Cert.KernelIdeal.Hand.KOps (Cert.KernelIdeal.Hand.Wl (F := Ideal) m ρ c) (Proc.devRef .tc Cert.KernelIdeal.main_v549) = StableHlo.after (Cert.ReferenceIdeal.Hand.ops (F := Ideal)) (StableHlo.launchContents m' c) (Proc.devRef .tc Cert.ReferenceIdeal.main_v1755) := by
  have hk := StableHlo.Ascending.eq_nary Cert.KernelIdeal.Hand.KOps_asc (Cert.KernelIdeal.Hand.Wl m ρ c) (Cert.KernelIdeal.Hand.mem_KOps_st7 (Cert.KernelIdeal.Hand.mem_st_7_48 (List.getElem_mem (l := Cert.KernelIdeal.GenP.hostOps7_48 (F := Ideal)) (n := 0) (by decide)))) rfl (fun i => by fin_cases i <;> rfl) (fun i => by fin_cases i <;> decide) (k := 4) (xs := ![Cert.KernelIdeal.main_v287, Cert.KernelIdeal.main_v374, Cert.KernelIdeal.main_v461, Cert.KernelIdeal.main_v548]) (y := Cert.KernelIdeal.main_v549) (f := open Cert.KernelIdeal Cert.KernelIdeal.Gen in fun u => concatenate S2048x32 1 [⟨S2048x8, u 0⟩, ⟨S2048x8, u 1⟩, ⟨S2048x8, u 2⟩, ⟨S2048x8, u 3⟩] concatenates_S2048x8_S2048x8_S2048x8_S2048x8_S2048x32_d1) (hxs := fun i => by fin_cases i <;> exact ⟨by decide, rfl⟩) (hy := ⟨by decide, rfl⟩)
  have hr := StableHlo.Ascending.eq_nary (Cert.ReferenceIdeal.Hand.ops_asc (F := Ideal)) (StableHlo.launchContents m' c) (Cert.ReferenceIdeal.Hand.mem_ops_part35 (List.getElem_mem (l := Cert.ReferenceIdeal.Hand.ops_part35 (F := Ideal)) (n := 52) (by decide))) rfl (fun i => by fin_cases i <;> rfl) (fun i => by fin_cases i <;> decide) (k := 4) (xs := ![Cert.ReferenceIdeal.main_v1382, Cert.ReferenceIdeal.main_v1506, Cert.ReferenceIdeal.main_v1630, Cert.ReferenceIdeal.main_v1754]) (y := Cert.ReferenceIdeal.main_v1755) (f := open Cert.ReferenceIdeal Cert.ReferenceIdeal.Gen in fun u => concatenate S2048x32 1 [⟨S2048x8, u 0⟩, ⟨S2048x8, u 1⟩, ⟨S2048x8, u 2⟩, ⟨S2048x8, u 3⟩] concatenates_S2048x8_S2048x8_S2048x8_S2048x8_S2048x32_d1) (hxs := fun i => by fin_cases i <;> exact ⟨by decide, rfl⟩) (hy := ⟨by decide, rfl⟩)
  rw [hk, hr]
  show concatenate Cert.KernelIdeal.S2048x32 1 [⟨Cert.KernelIdeal.S2048x8, StableHlo.after Cert.KernelIdeal.Hand.KOps (Cert.KernelIdeal.Hand.Wl (F := Ideal) m ρ c) (Proc.devRef .tc Cert.KernelIdeal.main_v287)⟩, ⟨Cert.KernelIdeal.S2048x8, StableHlo.after Cert.KernelIdeal.Hand.KOps (Cert.KernelIdeal.Hand.Wl (F := Ideal) m ρ c) (Proc.devRef .tc Cert.KernelIdeal.main_v374)⟩, ⟨Cert.KernelIdeal.S2048x8, StableHlo.after Cert.KernelIdeal.Hand.KOps (Cert.KernelIdeal.Hand.Wl (F := Ideal) m ρ c) (Proc.devRef .tc Cert.KernelIdeal.main_v461)⟩, ⟨Cert.KernelIdeal.S2048x8, StableHlo.after Cert.KernelIdeal.Hand.KOps (Cert.KernelIdeal.Hand.Wl (F := Ideal) m ρ c) (Proc.devRef .tc Cert.KernelIdeal.main_v548)⟩] Cert.KernelIdeal.Gen.concatenates_S2048x8_S2048x8_S2048x8_S2048x8_S2048x32_d1
     = concatenate Cert.ReferenceIdeal.S2048x32 1 [⟨Cert.ReferenceIdeal.S2048x8, StableHlo.after (Cert.ReferenceIdeal.Hand.ops (F := Ideal)) (StableHlo.launchContents m' c) (Proc.devRef .tc Cert.ReferenceIdeal.main_v1382)⟩, ⟨Cert.ReferenceIdeal.S2048x8, StableHlo.after (Cert.ReferenceIdeal.Hand.ops (F := Ideal)) (StableHlo.launchContents m' c) (Proc.devRef .tc Cert.ReferenceIdeal.main_v1506)⟩, ⟨Cert.ReferenceIdeal.S2048x8, StableHlo.after (Cert.ReferenceIdeal.Hand.ops (F := Ideal)) (StableHlo.launchContents m' c) (Proc.devRef .tc Cert.ReferenceIdeal.main_v1630)⟩, ⟨Cert.ReferenceIdeal.S2048x8, StableHlo.after (Cert.ReferenceIdeal.Hand.ops (F := Ideal)) (StableHlo.launchContents m' c) (Proc.devRef .tc Cert.ReferenceIdeal.main_v1754)⟩] Cert.ReferenceIdeal.Gen.concatenates_S2048x8_S2048x8_S2048x8_S2048x8_S2048x32_d1
  rw [← c_main_v287__main_v1382 hag hel, ← c_main_v374__main_v1506 hag hel, ← c_main_v461__main_v1630 hag hel, ← c_main_v548__main_v1754 hag hel]

theorem c_main_v550__main_v1768 : StableHlo.after Cert.KernelIdeal.Hand.KOps (Cert.KernelIdeal.Hand.Wl (F := Ideal) m ρ c) (Proc.devRef .tc Cert.KernelIdeal.main_v550) = StableHlo.after (Cert.ReferenceIdeal.Hand.ops (F := Ideal)) (StableHlo.launchContents m' c) (Proc.devRef .tc Cert.ReferenceIdeal.main_v1768) := by
  have hk := StableHlo.Ascending.eq_unary Cert.KernelIdeal.Hand.KOps_asc (Cert.KernelIdeal.Hand.Wl m ρ c) (Cert.KernelIdeal.Hand.mem_KOps_st7 (Cert.KernelIdeal.Hand.mem_st_7_48 (List.getElem_mem (l := Cert.KernelIdeal.GenP.hostOps7_48 (F := Ideal)) (n := 1) (by decide)))) rfl rfl (by decide) (x := Cert.KernelIdeal.main_arg2) (y := Cert.KernelIdeal.main_v550) (f := open Cert.KernelIdeal Cert.KernelIdeal.Gen in (transpose S32x256 [1, 0] · transposes_S256x32_S32x256_1_0)) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part35 (List.getElem_mem (l := Cert.ReferenceIdeal.Hand.ops_part35 (F := Ideal)) (n := 93) (by decide))) rfl rfl (by decide) (x := Cert.ReferenceIdeal.main_arg2) (y := Cert.ReferenceIdeal.main_v1768) (f := open Cert.ReferenceIdeal Cert.ReferenceIdeal.Gen in (transpose S32x256 [1, 0] · transposes_S256x32_S32x256_1_0)) (hx := ⟨by decide, rfl⟩) (hy := ⟨by decide, rfl⟩)
  rw [hk, hr, ← c_main_arg2__main_arg2 hag hel]

theorem c_main_v551__main_v1769 : StableHlo.after Cert.KernelIdeal.Hand.KOps (Cert.KernelIdeal.Hand.Wl (F := Ideal) m ρ c) (Proc.devRef .tc Cert.KernelIdeal.main_v551) = StableHlo.after (Cert.ReferenceIdeal.Hand.ops (F := Ideal)) (StableHlo.launchContents m' c) (Proc.devRef .tc Cert.ReferenceIdeal.main_v1769) := by
  have hk := StableHlo.Ascending.eq_binary Cert.KernelIdeal.Hand.KOps_asc (Cert.KernelIdeal.Hand.Wl m ρ c) (Cert.KernelIdeal.Hand.mem_KOps_st7 (Cert.KernelIdeal.Hand.mem_st_7_48 (List.getElem_mem (l := Cert.KernelIdeal.GenP.hostOps7_48 (F := Ideal)) (n := 2) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part35 (List.getElem_mem (l := Cert.ReferenceIdeal.Hand.ops_part35 (F := Ideal)) (n := 94) (by decide))) rfl rfl rfl (by decide) (by decide) (ha := ⟨by decide, rfl⟩) (hb := ⟨by decide, rfl⟩) (hy := ⟨by decide, rfl⟩)
  rw [hk, hr, ← c_main_v549__main_v1755 hag hel, ← c_main_v550__main_v1768 hag hel]
  rfl

theorem c_main_v552__main_v1770 : StableHlo.after Cert.KernelIdeal.Hand.KOps (Cert.KernelIdeal.Hand.Wl (F := Ideal) m ρ c) (Proc.devRef .tc Cert.KernelIdeal.main_v552) = StableHlo.after (Cert.ReferenceIdeal.Hand.ops (F := Ideal)) (StableHlo.launchContents m' c) (Proc.devRef .tc Cert.ReferenceIdeal.main_v1770) := by
  have hk := StableHlo.Ascending.eq_unary Cert.KernelIdeal.Hand.KOps_asc (Cert.KernelIdeal.Hand.Wl m ρ c) (Cert.KernelIdeal.Hand.mem_KOps_st7 (Cert.KernelIdeal.Hand.mem_st_7_48 (List.getElem_mem (l := Cert.KernelIdeal.GenP.hostOps7_48 (F := Ideal)) (n := 3) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part35 (List.getElem_mem (l := Cert.ReferenceIdeal.Hand.ops_part35 (F := Ideal)) (n := 95) (by decide))) rfl rfl (by decide) (hx := ⟨by decide, rfl⟩) (hy := ⟨by decide, rfl⟩)
  rw [hk, hr, ← c_main_arg3__main_arg3 hag hel]

theorem c_main_v553__main_v1771 : StableHlo.after Cert.KernelIdeal.Hand.KOps (Cert.KernelIdeal.Hand.Wl (F := Ideal) m ρ c) (Proc.devRef .tc Cert.KernelIdeal.main_v553) = StableHlo.after (Cert.ReferenceIdeal.Hand.ops (F := Ideal)) (StableHlo.launchContents m' c) (Proc.devRef .tc Cert.ReferenceIdeal.main_v1771) := by
  have hk := StableHlo.Ascending.eq_unary Cert.KernelIdeal.Hand.KOps_asc (Cert.KernelIdeal.Hand.Wl m ρ c) (Cert.KernelIdeal.Hand.mem_KOps_st7 (Cert.KernelIdeal.Hand.mem_st_7_48 (List.getElem_mem (l := Cert.KernelIdeal.GenP.hostOps7_48 (F := Ideal)) (n := 4) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part35 (List.getElem_mem (l := Cert.ReferenceIdeal.Hand.ops_part35 (F := Ideal)) (n := 96) (by decide))) rfl rfl (by decide) (hx := ⟨by decide, rfl⟩) (hy := ⟨by decide, rfl⟩)
  rw [hk, hr, ← c_main_v552__main_v1770 hag hel]

theorem c_main_v554__main_v1772 : StableHlo.after Cert.KernelIdeal.Hand.KOps (Cert.KernelIdeal.Hand.Wl (F := Ideal) m ρ c) (Proc.devRef .tc Cert.KernelIdeal.main_v554) = StableHlo.after (Cert.ReferenceIdeal.Hand.ops (F := Ideal)) (StableHlo.launchContents m' c) (Proc.devRef .tc Cert.ReferenceIdeal.main_v1772) := by
  have hk := StableHlo.Ascending.eq_binary Cert.KernelIdeal.Hand.KOps_asc (Cert.KernelIdeal.Hand.Wl m ρ c) (Cert.KernelIdeal.Hand.mem_KOps_st7 (Cert.KernelIdeal.Hand.mem_st_7_48 (List.getElem_mem (l := Cert.KernelIdeal.GenP.hostOps7_48 (F := Ideal)) (n := 5) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part35 (List.getElem_mem (l := Cert.ReferenceIdeal.Hand.ops_part35 (F := Ideal)) (n := 97) (by decide))) rfl rfl rfl (by decide) (by decide) (ha := ⟨by decide, rfl⟩) (hb := ⟨by decide, rfl⟩) (hy := ⟨by decide, rfl⟩)
  rw [hk, hr, ← c_main_v551__main_v1769 hag hel, ← c_main_v553__main_v1771 hag hel]

theorem c_main_call25_cst__main_call86_cst : StableHlo.after Cert.KernelIdeal.Hand.KOps (Cert.KernelIdeal.Hand.Wl (F := Ideal) m ρ c) (Proc.devRef .tc Cert.KernelIdeal.main_call25_cst) = StableHlo.after (Cert.ReferenceIdeal.Hand.ops (F := Ideal)) (StableHlo.launchContents m' c) (Proc.devRef .tc Cert.ReferenceIdeal.main_call86_cst) := by
  have hk := StableHlo.Ascending.eq_nullary Cert.KernelIdeal.Hand.KOps_asc (Cert.KernelIdeal.Hand.Wl m ρ c) (Cert.KernelIdeal.Hand.mem_KOps_st7 (Cert.KernelIdeal.Hand.mem_st_7_49 (List.getElem_mem (l := Cert.KernelIdeal.GenP.hostOps7_49 (F := Ideal)) (n := 0) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part35 (List.getElem_mem (l := Cert.ReferenceIdeal.Hand.ops_part35 (F := Ideal)) (n := 98) (by decide))) rfl (hy := ⟨by decide, rfl⟩)
  rw [hk, hr]

theorem c_main_call25_v0__main_call86_v0 : StableHlo.after Cert.KernelIdeal.Hand.KOps (Cert.KernelIdeal.Hand.Wl (F := Ideal) m ρ c) (Proc.devRef .tc Cert.KernelIdeal.main_call25_v0) = StableHlo.after (Cert.ReferenceIdeal.Hand.ops (F := Ideal)) (StableHlo.launchContents m' c) (Proc.devRef .tc Cert.ReferenceIdeal.main_call86_v0) := by
  have hk := StableHlo.Ascending.eq_unary Cert.KernelIdeal.Hand.KOps_asc (Cert.KernelIdeal.Hand.Wl m ρ c) (Cert.KernelIdeal.Hand.mem_KOps_st7 (Cert.KernelIdeal.Hand.mem_st_7_49 (List.getElem_mem (l := Cert.KernelIdeal.GenP.hostOps7_49 (F := Ideal)) (n := 1) (by decide)))) rfl rfl (by decide) (x := Cert.KernelIdeal.main_call25_cst) (y := Cert.KernelIdeal.main_call25_v0) (f := open Cert.KernelIdeal Cert.KernelIdeal.Gen in (broadcastInDim S2048x256 ![] bcast_S_S2048x256)) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part35 (List.getElem_mem (l := Cert.ReferenceIdeal.Hand.ops_part35 (F := Ideal)) (n := 99) (by decide))) rfl rfl (by decide) (x := Cert.ReferenceIdeal.main_call86_cst) (y := Cert.ReferenceIdeal.main_call86_v0) (f := open Cert.ReferenceIdeal Cert.ReferenceIdeal.Gen in (broadcastInDim S2048x256 ![] bcast_S_S2048x256)) (hx := ⟨by decide, rfl⟩) (hy := ⟨by decide, rfl⟩)
  rw [hk, hr, ← c_main_call25_cst__main_call86_cst hag hel]

theorem c_main_call25_v1__main_call86_v1 : StableHlo.after Cert.KernelIdeal.Hand.KOps (Cert.KernelIdeal.Hand.Wl (F := Ideal) m ρ c) (Proc.devRef .tc Cert.KernelIdeal.main_call25_v1) = StableHlo.after (Cert.ReferenceIdeal.Hand.ops (F := Ideal)) (StableHlo.launchContents m' c) (Proc.devRef .tc Cert.ReferenceIdeal.main_call86_v1) := by
  have hk := StableHlo.Ascending.eq_binary Cert.KernelIdeal.Hand.KOps_asc (Cert.KernelIdeal.Hand.Wl m ρ c) (Cert.KernelIdeal.Hand.mem_KOps_st7 (Cert.KernelIdeal.Hand.mem_st_7_49 (List.getElem_mem (l := Cert.KernelIdeal.GenP.hostOps7_49 (F := Ideal)) (n := 2) (by decide)))) rfl rfl rfl (by decide) (by decide) (a := Cert.KernelIdeal.main_v554) (b := Cert.KernelIdeal.main_call25_v0) (y := Cert.KernelIdeal.main_call25_v1) (f := open Cert.KernelIdeal Cert.KernelIdeal.Gen in (cmpf (F := Ideal) .ogt)) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part35 (List.getElem_mem (l := Cert.ReferenceIdeal.Hand.ops_part35 (F := Ideal)) (n := 100) (by decide))) rfl rfl rfl (by decide) (by decide) (a := Cert.ReferenceIdeal.main_v1772) (b := Cert.ReferenceIdeal.main_call86_v0) (y := Cert.ReferenceIdeal.main_call86_v1) (f := open Cert.ReferenceIdeal Cert.ReferenceIdeal.Gen in (cmpf (F := Ideal) .ogt)) (ha := ⟨by decide, rfl⟩) (hb := ⟨by decide, rfl⟩) (hy := ⟨by decide, rfl⟩)
  rw [hk, hr, ← c_main_v554__main_v1772 hag hel, ← c_main_call25_v0__main_call86_v0 hag hel]

theorem c_main_call25_cst_0__main_call86_cst_0 : StableHlo.after Cert.KernelIdeal.Hand.KOps (Cert.KernelIdeal.Hand.Wl (F := Ideal) m ρ c) (Proc.devRef .tc Cert.KernelIdeal.main_call25_cst_0) = StableHlo.after (Cert.ReferenceIdeal.Hand.ops (F := Ideal)) (StableHlo.launchContents m' c) (Proc.devRef .tc Cert.ReferenceIdeal.main_call86_cst_0) := by
  have hk := StableHlo.Ascending.eq_nullary Cert.KernelIdeal.Hand.KOps_asc (Cert.KernelIdeal.Hand.Wl m ρ c) (Cert.KernelIdeal.Hand.mem_KOps_st7 (Cert.KernelIdeal.Hand.mem_st_7_49 (List.getElem_mem (l := Cert.KernelIdeal.GenP.hostOps7_49 (F := Ideal)) (n := 3) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part35 (List.getElem_mem (l := Cert.ReferenceIdeal.Hand.ops_part35 (F := Ideal)) (n := 101) (by decide))) rfl (hy := ⟨by decide, rfl⟩)
  rw [hk, hr]

theorem c_main_call25_v2__main_call86_v2 : StableHlo.after Cert.KernelIdeal.Hand.KOps (Cert.KernelIdeal.Hand.Wl (F := Ideal) m ρ c) (Proc.devRef .tc Cert.KernelIdeal.main_call25_v2) = StableHlo.after (Cert.ReferenceIdeal.Hand.ops (F := Ideal)) (StableHlo.launchContents m' c) (Proc.devRef .tc Cert.ReferenceIdeal.main_call86_v2) := by
  have hk := StableHlo.Ascending.eq_unary Cert.KernelIdeal.Hand.KOps_asc (Cert.KernelIdeal.Hand.Wl m ρ c) (Cert.KernelIdeal.Hand.mem_KOps_st7 (Cert.KernelIdeal.Hand.mem_st_7_49 (List.getElem_mem (l := Cert.KernelIdeal.GenP.hostOps7_49 (F := Ideal)) (n := 4) (by decide)))) rfl rfl (by decide) (x := Cert.KernelIdeal.main_call25_cst_0) (y := Cert.KernelIdeal.main_call25_v2) (f := open Cert.KernelIdeal Cert.KernelIdeal.Gen in (broadcastInDim S2048x256 ![] bcast_S_S2048x256)) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part35 (List.getElem_mem (l := Cert.ReferenceIdeal.Hand.ops_part35 (F := Ideal)) (n := 102) (by decide))) rfl rfl (by decide) (x := Cert.ReferenceIdeal.main_call86_cst_0) (y := Cert.ReferenceIdeal.main_call86_v2) (f := open Cert.ReferenceIdeal Cert.ReferenceIdeal.Gen in (broadcastInDim S2048x256 ![] bcast_S_S2048x256)) (hx := ⟨by decide, rfl⟩) (hy := ⟨by decide, rfl⟩)
  rw [hk, hr, ← c_main_call25_cst_0__main_call86_cst_0 hag hel]

theorem c_main_call25_v3__main_call86_v3 : StableHlo.after Cert.KernelIdeal.Hand.KOps (Cert.KernelIdeal.Hand.Wl (F := Ideal) m ρ c) (Proc.devRef .tc Cert.KernelIdeal.main_call25_v3) = StableHlo.after (Cert.ReferenceIdeal.Hand.ops (F := Ideal)) (StableHlo.launchContents m' c) (Proc.devRef .tc Cert.ReferenceIdeal.main_call86_v3) := by
  have hk := StableHlo.Ascending.eq_binary Cert.KernelIdeal.Hand.KOps_asc (Cert.KernelIdeal.Hand.Wl m ρ c) (Cert.KernelIdeal.Hand.mem_KOps_st7 (Cert.KernelIdeal.Hand.mem_st_7_49 (List.getElem_mem (l := Cert.KernelIdeal.GenP.hostOps7_49 (F := Ideal)) (n := 5) (by decide)))) rfl rfl rfl (by decide) (by decide) (a := Cert.KernelIdeal.main_v554) (b := Cert.KernelIdeal.main_call25_v2) (y := Cert.KernelIdeal.main_call25_v3) (f := open Cert.KernelIdeal Cert.KernelIdeal.Gen in (cmpf (F := Ideal) .ogt)) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part35 (List.getElem_mem (l := Cert.ReferenceIdeal.Hand.ops_part35 (F := Ideal)) (n := 103) (by decide))) rfl rfl rfl (by decide) (by decide) (a := Cert.ReferenceIdeal.main_v1772) (b := Cert.ReferenceIdeal.main_call86_v2) (y := Cert.ReferenceIdeal.main_call86_v3) (f := open Cert.ReferenceIdeal Cert.ReferenceIdeal.Gen in (cmpf (F := Ideal) .ogt)) (ha := ⟨by decide, rfl⟩) (hb := ⟨by decide, rfl⟩) (hy := ⟨by decide, rfl⟩)
  rw [hk, hr, ← c_main_v554__main_v1772 hag hel, ← c_main_call25_v2__main_call86_v2 hag hel]

theorem c_main_call25_cst_1__main_call86_cst_1 : StableHlo.after Cert.KernelIdeal.Hand.KOps (Cert.KernelIdeal.Hand.Wl (F := Ideal) m ρ c) (Proc.devRef .tc Cert.KernelIdeal.main_call25_cst_1) = StableHlo.after (Cert.ReferenceIdeal.Hand.ops (F := Ideal)) (StableHlo.launchContents m' c) (Proc.devRef .tc Cert.ReferenceIdeal.main_call86_cst_1) := by
  have hk := StableHlo.Ascending.eq_nullary Cert.KernelIdeal.Hand.KOps_asc (Cert.KernelIdeal.Hand.Wl m ρ c) (Cert.KernelIdeal.Hand.mem_KOps_st7 (Cert.KernelIdeal.Hand.mem_st_7_49 (List.getElem_mem (l := Cert.KernelIdeal.GenP.hostOps7_49 (F := Ideal)) (n := 6) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part35 (List.getElem_mem (l := Cert.ReferenceIdeal.Hand.ops_part35 (F := Ideal)) (n := 104) (by decide))) rfl (hy := ⟨by decide, rfl⟩)
  rw [hk, hr]

theorem c_main_call25_call0_v0__main_call86_call0_v0 : StableHlo.after Cert.KernelIdeal.Hand.KOps (Cert.KernelIdeal.Hand.Wl (F := Ideal) m ρ c) (Proc.devRef .tc Cert.KernelIdeal.main_call25_call0_v0) = StableHlo.after (Cert.ReferenceIdeal.Hand.ops (F := Ideal)) (StableHlo.launchContents m' c) (Proc.devRef .tc Cert.ReferenceIdeal.main_call86_call0_v0) := by
  have hk := StableHlo.Ascending.eq_unary Cert.KernelIdeal.Hand.KOps_asc (Cert.KernelIdeal.Hand.Wl m ρ c) (Cert.KernelIdeal.Hand.mem_KOps_st7 (Cert.KernelIdeal.Hand.mem_st_7_49 (List.getElem_mem (l := Cert.KernelIdeal.GenP.hostOps7_49 (F := Ideal)) (n := 7) (by decide)))) rfl rfl (by decide) (x := Cert.KernelIdeal.main_call25_cst_1) (y := Cert.KernelIdeal.main_call25_call0_v0) (f := open Cert.KernelIdeal Cert.KernelIdeal.Gen in id) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part35 (List.getElem_mem (l := Cert.ReferenceIdeal.Hand.ops_part35 (F := Ideal)) (n := 105) (by decide))) rfl rfl (by decide) (x := Cert.ReferenceIdeal.main_call86_cst_1) (y := Cert.ReferenceIdeal.main_call86_call0_v0) (f := open Cert.ReferenceIdeal Cert.ReferenceIdeal.Gen in id) (hx := ⟨by decide, rfl⟩) (hy := ⟨by decide, rfl⟩)
  rw [hk, hr, ← c_main_call25_cst_1__main_call86_cst_1 hag hel]

theorem c_main_call25_call0_v1__main_call86_call0_v1 : StableHlo.after Cert.KernelIdeal.Hand.KOps (Cert.KernelIdeal.Hand.Wl (F := Ideal) m ρ c) (Proc.devRef .tc Cert.KernelIdeal.main_call25_call0_v1) = StableHlo.after (Cert.ReferenceIdeal.Hand.ops (F := Ideal)) (StableHlo.launchContents m' c) (Proc.devRef .tc Cert.ReferenceIdeal.main_call86_call0_v1) := by
  have hk := StableHlo.Ascending.eq_unary Cert.KernelIdeal.Hand.KOps_asc (Cert.KernelIdeal.Hand.Wl m ρ c) (Cert.KernelIdeal.Hand.mem_KOps_st7 (Cert.KernelIdeal.Hand.mem_st_7_49 (List.getElem_mem (l := Cert.KernelIdeal.GenP.hostOps7_49 (F := Ideal)) (n := 8) (by decide)))) rfl rfl (by decide) (x := Cert.KernelIdeal.main_call25_call0_v0) (y := Cert.KernelIdeal.main_call25_call0_v1) (f := open Cert.KernelIdeal Cert.KernelIdeal.Gen in (broadcastInDim S2048x256 ![] bcast_S_S2048x256)) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part35 (List.getElem_mem (l := Cert.ReferenceIdeal.Hand.ops_part35 (F := Ideal)) (n := 106) (by decide))) rfl rfl (by decide) (x := Cert.ReferenceIdeal.main_call86_call0_v0) (y := Cert.ReferenceIdeal.main_call86_call0_v1) (f := open Cert.ReferenceIdeal Cert.ReferenceIdeal.Gen in (broadcastInDim S2048x256 ![] bcast_S_S2048x256)) (hx := ⟨by decide, rfl⟩) (hy := ⟨by decide, rfl⟩)
  rw [hk, hr, ← c_main_call25_call0_v0__main_call86_call0_v0 hag hel]

theorem c_main_call25_v4__main_call86_v4 : StableHlo.after Cert.KernelIdeal.Hand.KOps (Cert.KernelIdeal.Hand.Wl (F := Ideal) m ρ c) (Proc.devRef .tc Cert.KernelIdeal.main_call25_v4) = StableHlo.after (Cert.ReferenceIdeal.Hand.ops (F := Ideal)) (StableHlo.launchContents m' c) (Proc.devRef .tc Cert.ReferenceIdeal.main_call86_v4) := by
  have hk := StableHlo.Ascending.eq_ternary Cert.KernelIdeal.Hand.KOps_asc (Cert.KernelIdeal.Hand.Wl m ρ c) (Cert.KernelIdeal.Hand.mem_KOps_st7 (Cert.KernelIdeal.Hand.mem_st_7_49 (List.getElem_mem (l := Cert.KernelIdeal.GenP.hostOps7_49 (F := Ideal)) (n := 9) (by decide)))) rfl rfl rfl rfl (by decide) (by decide) (by decide) (c := Cert.KernelIdeal.main_call25_v3) (a := Cert.KernelIdeal.main_call25_call0_v1) (b := Cert.KernelIdeal.main_v554) (y := Cert.KernelIdeal.main_call25_v4) (f := (select : (⟨Cert.KernelIdeal.S2048x256, .i1⟩ : BufTy).Contents (Elt Ideal) → (⟨Cert.KernelIdeal.S2048x256, .f32⟩ : BufTy).Contents (Elt Ideal) → (⟨Cert.KernelIdeal.S2048x256, .f32⟩ : BufTy).Contents (Elt Ideal) → (⟨Cert.KernelIdeal.S2048x256, .f32⟩ : BufTy).Contents (Elt Ideal))) (hc := ⟨by decide, rfl⟩) (ha := ⟨by decide, rfl⟩) (hb := ⟨by decide, rfl⟩) (hy := ⟨by decide, rfl⟩)
  have hr := StableHlo.Ascending.eq_ternary (Cert.ReferenceIdeal.Hand.ops_asc (F := Ideal)) (StableHlo.launchContents m' c) (Cert.ReferenceIdeal.Hand.mem_ops_part35 (List.getElem_mem (l := Cert.ReferenceIdeal.Hand.ops_part35 (F := Ideal)) (n := 107) (by decide))) rfl rfl rfl rfl (by decide) (by decide) (by decide) (c := Cert.ReferenceIdeal.main_call86_v3) (a := Cert.ReferenceIdeal.main_call86_call0_v1) (b := Cert.ReferenceIdeal.main_v1772) (y := Cert.ReferenceIdeal.main_call86_v4) (f := (select : (⟨Cert.ReferenceIdeal.S2048x256, .i1⟩ : BufTy).Contents (Elt Ideal) → (⟨Cert.ReferenceIdeal.S2048x256, .f32⟩ : BufTy).Contents (Elt Ideal) → (⟨Cert.ReferenceIdeal.S2048x256, .f32⟩ : BufTy).Contents (Elt Ideal) → (⟨Cert.ReferenceIdeal.S2048x256, .f32⟩ : BufTy).Contents (Elt Ideal))) (hc := ⟨by decide, rfl⟩) (ha := ⟨by decide, rfl⟩) (hb := ⟨by decide, rfl⟩) (hy := ⟨by decide, rfl⟩)
  rw [hk, hr, ← c_main_call25_v3__main_call86_v3 hag hel, ← c_main_call25_call0_v1__main_call86_call0_v1 hag hel, ← c_main_v554__main_v1772 hag hel]

theorem c_main_call25_v5__main_call86_v5 : StableHlo.after Cert.KernelIdeal.Hand.KOps (Cert.KernelIdeal.Hand.Wl (F := Ideal) m ρ c) (Proc.devRef .tc Cert.KernelIdeal.main_call25_v5) = StableHlo.after (Cert.ReferenceIdeal.Hand.ops (F := Ideal)) (StableHlo.launchContents m' c) (Proc.devRef .tc Cert.ReferenceIdeal.main_call86_v5) := by
  have hk := StableHlo.Ascending.eq_unary Cert.KernelIdeal.Hand.KOps_asc (Cert.KernelIdeal.Hand.Wl m ρ c) (Cert.KernelIdeal.Hand.mem_KOps_st7 (Cert.KernelIdeal.Hand.mem_st_7_49 (List.getElem_mem (l := Cert.KernelIdeal.GenP.hostOps7_49 (F := Ideal)) (n := 10) (by decide)))) rfl rfl (by decide) (x := Cert.KernelIdeal.main_call25_v4) (y := Cert.KernelIdeal.main_call25_v5) (f := open Cert.KernelIdeal Cert.KernelIdeal.Gen in Host.expm1 (F := Ideal)) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part35 (List.getElem_mem (l := Cert.ReferenceIdeal.Hand.ops_part35 (F := Ideal)) (n := 108) (by decide))) rfl rfl (by decide) (x := Cert.ReferenceIdeal.main_call86_v4) (y := Cert.ReferenceIdeal.main_call86_v5) (f := open Cert.ReferenceIdeal Cert.ReferenceIdeal.Gen in Host.expm1 (F := Ideal)) (hx := ⟨by decide, rfl⟩) (hy := ⟨by decide, rfl⟩)
  rw [hk, hr, ← c_main_call25_v4__main_call86_v4 hag hel]

theorem c_main_call25_cst_2__main_call86_cst_2 : StableHlo.after Cert.KernelIdeal.Hand.KOps (Cert.KernelIdeal.Hand.Wl (F := Ideal) m ρ c) (Proc.devRef .tc Cert.KernelIdeal.main_call25_cst_2) = StableHlo.after (Cert.ReferenceIdeal.Hand.ops (F := Ideal)) (StableHlo.launchContents m' c) (Proc.devRef .tc Cert.ReferenceIdeal.main_call86_cst_2) := by
  have hk := StableHlo.Ascending.eq_nullary Cert.KernelIdeal.Hand.KOps_asc (Cert.KernelIdeal.Hand.Wl m ρ c) (Cert.KernelIdeal.Hand.mem_KOps_st7 (Cert.KernelIdeal.Hand.mem_st_7_49 (List.getElem_mem (l := Cert.KernelIdeal.GenP.hostOps7_49 (F := Ideal)) (n := 11) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part35 (List.getElem_mem (l := Cert.ReferenceIdeal.Hand.ops_part35 (F := Ideal)) (n := 109) (by decide))) rfl (hy := ⟨by decide, rfl⟩)
  rw [hk, hr]

theorem c_main_call25_v6__main_call86_v6 : StableHlo.after Cert.KernelIdeal.Hand.KOps (Cert.KernelIdeal.Hand.Wl (F := Ideal) m ρ c) (Proc.devRef .tc Cert.KernelIdeal.main_call25_v6) = StableHlo.after (Cert.ReferenceIdeal.Hand.ops (F := Ideal)) (StableHlo.launchContents m' c) (Proc.devRef .tc Cert.ReferenceIdeal.main_call86_v6) := by
  have hk := StableHlo.Ascending.eq_unary Cert.KernelIdeal.Hand.KOps_asc (Cert.KernelIdeal.Hand.Wl m ρ c) (Cert.KernelIdeal.Hand.mem_KOps_st7 (Cert.KernelIdeal.Hand.mem_st_7_49 (List.getElem_mem (l := Cert.KernelIdeal.GenP.hostOps7_49 (F := Ideal)) (n := 12) (by decide)))) rfl rfl (by decide) (x := Cert.KernelIdeal.main_call25_cst_2) (y := Cert.KernelIdeal.main_call25_v6) (f := open Cert.KernelIdeal Cert.KernelIdeal.Gen in (broadcastInDim S2048x256 ![] bcast_S_S2048x256)) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part35 (List.getElem_mem (l := Cert.ReferenceIdeal.Hand.ops_part35 (F := Ideal)) (n := 110) (by decide))) rfl rfl (by decide) (x := Cert.ReferenceIdeal.main_call86_cst_2) (y := Cert.ReferenceIdeal.main_call86_v6) (f := open Cert.ReferenceIdeal Cert.ReferenceIdeal.Gen in (broadcastInDim S2048x256 ![] bcast_S_S2048x256)) (hx := ⟨by decide, rfl⟩) (hy := ⟨by decide, rfl⟩)
  rw [hk, hr, ← c_main_call25_cst_2__main_call86_cst_2 hag hel]

theorem c_main_call25_v7__main_call86_v7 : StableHlo.after Cert.KernelIdeal.Hand.KOps (Cert.KernelIdeal.Hand.Wl (F := Ideal) m ρ c) (Proc.devRef .tc Cert.KernelIdeal.main_call25_v7) = StableHlo.after (Cert.ReferenceIdeal.Hand.ops (F := Ideal)) (StableHlo.launchContents m' c) (Proc.devRef .tc Cert.ReferenceIdeal.main_call86_v7) := by
  have hk := StableHlo.Ascending.eq_binary Cert.KernelIdeal.Hand.KOps_asc (Cert.KernelIdeal.Hand.Wl m ρ c) (Cert.KernelIdeal.Hand.mem_KOps_st7 (Cert.KernelIdeal.Hand.mem_st_7_49 (List.getElem_mem (l := Cert.KernelIdeal.GenP.hostOps7_49 (F := Ideal)) (n := 13) (by decide)))) rfl rfl rfl (by decide) (by decide) (a := Cert.KernelIdeal.main_call25_v6) (b := Cert.KernelIdeal.main_call25_v5) (y := Cert.KernelIdeal.main_call25_v7) (f := open Cert.KernelIdeal Cert.KernelIdeal.Gen in mulf (F := Ideal)) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part35 (List.getElem_mem (l := Cert.ReferenceIdeal.Hand.ops_part35 (F := Ideal)) (n := 111) (by decide))) rfl rfl rfl (by decide) (by decide) (a := Cert.ReferenceIdeal.main_call86_v6) (b := Cert.ReferenceIdeal.main_call86_v5) (y := Cert.ReferenceIdeal.main_call86_v7) (f := open Cert.ReferenceIdeal Cert.ReferenceIdeal.Gen in mulf (F := Ideal)) (ha := ⟨by decide, rfl⟩) (hb := ⟨by decide, rfl⟩) (hy := ⟨by decide, rfl⟩)
  rw [hk, hr, ← c_main_call25_v6__main_call86_v6 hag hel, ← c_main_call25_v5__main_call86_v5 hag hel]

theorem c_main_v555__main_v1773 : StableHlo.after Cert.KernelIdeal.Hand.KOps (Cert.KernelIdeal.Hand.Wl (F := Ideal) m ρ c) (Proc.devRef .tc Cert.KernelIdeal.main_v555) = StableHlo.after (Cert.ReferenceIdeal.Hand.ops (F := Ideal)) (StableHlo.launchContents m' c) (Proc.devRef .tc Cert.ReferenceIdeal.main_v1773) := by
  have hk := StableHlo.Ascending.eq_ternary Cert.KernelIdeal.Hand.KOps_asc (Cert.KernelIdeal.Hand.Wl m ρ c) (Cert.KernelIdeal.Hand.mem_KOps_st7 (Cert.KernelIdeal.Hand.mem_st_7_49 (List.getElem_mem (l := Cert.KernelIdeal.GenP.hostOps7_49 (F := Ideal)) (n := 14) (by decide)))) rfl rfl rfl rfl (by decide) (by decide) (by decide) (c := Cert.KernelIdeal.main_call25_v1) (a := Cert.KernelIdeal.main_v554) (b := Cert.KernelIdeal.main_call25_v7) (y := Cert.KernelIdeal.main_v555) (f := (select : (⟨Cert.KernelIdeal.S2048x256, .i1⟩ : BufTy).Contents (Elt Ideal) → (⟨Cert.KernelIdeal.S2048x256, .f32⟩ : BufTy).Contents (Elt Ideal) → (⟨Cert.KernelIdeal.S2048x256, .f32⟩ : BufTy).Contents (Elt Ideal) → (⟨Cert.KernelIdeal.S2048x256, .f32⟩ : BufTy).Contents (Elt Ideal))) (hc := ⟨by decide, rfl⟩) (ha := ⟨by decide, rfl⟩) (hb := ⟨by decide, rfl⟩) (hy := ⟨by decide, rfl⟩)
  have hr := StableHlo.Ascending.eq_ternary (Cert.ReferenceIdeal.Hand.ops_asc (F := Ideal)) (StableHlo.launchContents m' c) (Cert.ReferenceIdeal.Hand.mem_ops_part35 (List.getElem_mem (l := Cert.ReferenceIdeal.Hand.ops_part35 (F := Ideal)) (n := 112) (by decide))) rfl rfl rfl rfl (by decide) (by decide) (by decide) (c := Cert.ReferenceIdeal.main_call86_v1) (a := Cert.ReferenceIdeal.main_v1772) (b := Cert.ReferenceIdeal.main_call86_v7) (y := Cert.ReferenceIdeal.main_v1773) (f := (select : (⟨Cert.ReferenceIdeal.S2048x256, .i1⟩ : BufTy).Contents (Elt Ideal) → (⟨Cert.ReferenceIdeal.S2048x256, .f32⟩ : BufTy).Contents (Elt Ideal) → (⟨Cert.ReferenceIdeal.S2048x256, .f32⟩ : BufTy).Contents (Elt Ideal) → (⟨Cert.ReferenceIdeal.S2048x256, .f32⟩ : BufTy).Contents (Elt Ideal))) (hc := ⟨by decide, rfl⟩) (ha := ⟨by decide, rfl⟩) (hb := ⟨by decide, rfl⟩) (hy := ⟨by decide, rfl⟩)
  rw [hk, hr, ← c_main_call25_v1__main_call86_v1 hag hel, ← c_main_v554__main_v1772 hag hel, ← c_main_call25_v7__main_call86_v7 hag hel]

theorem c_main_v556__main_v1774 : StableHlo.after Cert.KernelIdeal.Hand.KOps (Cert.KernelIdeal.Hand.Wl (F := Ideal) m ρ c) (Proc.devRef .tc Cert.KernelIdeal.main_v556) = StableHlo.after (Cert.ReferenceIdeal.Hand.ops (F := Ideal)) (StableHlo.launchContents m' c) (Proc.devRef .tc Cert.ReferenceIdeal.main_v1774) := by
  have hk := StableHlo.Ascending.eq_unary Cert.KernelIdeal.Hand.KOps_asc (Cert.KernelIdeal.Hand.Wl m ρ c) (Cert.KernelIdeal.Hand.mem_KOps_st7 (Cert.KernelIdeal.Hand.mem_st_7_50 (List.getElem_mem (l := Cert.KernelIdeal.GenP.hostOps7_50 (F := Ideal)) (n := 0) (by decide)))) rfl rfl (by decide) (x := Cert.KernelIdeal.main_arg10) (y := Cert.KernelIdeal.main_v556) (f := open Cert.KernelIdeal Cert.KernelIdeal.Gen in (extractStridedSlice S1x16x16 ![0, 0, 0] · slices_S3x16x16_S1x16x16_0_0_0)) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part35 (List.getElem_mem (l := Cert.ReferenceIdeal.Hand.ops_part35 (F := Ideal)) (n := 113) (by decide))) rfl rfl (by decide) (x := Cert.ReferenceIdeal.main_arg10) (y := Cert.ReferenceIdeal.main_v1774) (f := open Cert.ReferenceIdeal Cert.ReferenceIdeal.Gen in (extractStridedSlice S1x16x16 ![0, 0, 0] · slices_S3x16x16_S1x16x16_0_0_0)) (hx := ⟨by decide, rfl⟩) (hy := ⟨by decide, rfl⟩)
  rw [hk, hr, ← c_main_arg10__main_arg10 hag hel]

theorem c_main_v557__main_v1775 : StableHlo.after Cert.KernelIdeal.Hand.KOps (Cert.KernelIdeal.Hand.Wl (F := Ideal) m ρ c) (Proc.devRef .tc Cert.KernelIdeal.main_v557) = StableHlo.after (Cert.ReferenceIdeal.Hand.ops (F := Ideal)) (StableHlo.launchContents m' c) (Proc.devRef .tc Cert.ReferenceIdeal.main_v1775) := by
  have hk := StableHlo.Ascending.eq_reshape Cert.KernelIdeal.Hand.KOps_asc (Cert.KernelIdeal.Hand.Wl m ρ c) (Cert.KernelIdeal.Hand.mem_KOps_st7 (Cert.KernelIdeal.Hand.mem_st_7_50 (List.getElem_mem (l := Cert.KernelIdeal.GenP.hostOps7_50 (F := Ideal)) (n := 1) (by decide)))) rfl rfl (by decide) (x := Cert.KernelIdeal.main_v556) (y := Cert.KernelIdeal.main_v557) (he := rfl) (hn := Cert.KernelIdeal.Gen.shapeCasts_S1x16x16_S16x16) (hx := ⟨by decide, rfl⟩) (hy := ⟨by decide, rfl⟩)
  have hr := StableHlo.Ascending.eq_reshape (Cert.ReferenceIdeal.Hand.ops_asc (F := Ideal)) (StableHlo.launchContents m' c) (Cert.ReferenceIdeal.Hand.mem_ops_part35 (List.getElem_mem (l := Cert.ReferenceIdeal.Hand.ops_part35 (F := Ideal)) (n := 114) (by decide))) rfl rfl (by decide) (x := Cert.ReferenceIdeal.main_v1774) (y := Cert.ReferenceIdeal.main_v1775) (he := rfl) (hn := Cert.ReferenceIdeal.Gen.shapeCasts_S1x16x16_S16x16) (hx := ⟨by decide, rfl⟩) (hy := ⟨by decide, rfl⟩)
  rw [hk, hr, ← c_main_v556__main_v1774 hag hel]
  rfl

theorem c_main_v558__main_v1776 : StableHlo.after Cert.KernelIdeal.Hand.KOps (Cert.KernelIdeal.Hand.Wl (F := Ideal) m ρ c) (Proc.devRef .tc Cert.KernelIdeal.main_v558) = StableHlo.after (Cert.ReferenceIdeal.Hand.ops (F := Ideal)) (StableHlo.launchContents m' c) (Proc.devRef .tc Cert.ReferenceIdeal.main_v1776) := by
  have hk := StableHlo.Ascending.eq_binary Cert.KernelIdeal.Hand.KOps_asc (Cert.KernelIdeal.Hand.Wl m ρ c) (Cert.KernelIdeal.Hand.mem_KOps_st7 (Cert.KernelIdeal.Hand.mem_st_7_50 (List.getElem_mem (l := Cert.KernelIdeal.GenP.hostOps7_50 (F := Ideal)) (n := 2) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part35 (List.getElem_mem (l := Cert.ReferenceIdeal.Hand.ops_part35 (F := Ideal)) (n := 115) (by decide))) rfl rfl rfl (by decide) (by decide) (ha := ⟨by decide, rfl⟩) (hb := ⟨by decide, rfl⟩) (hy := ⟨by decide, rfl⟩)
  rw [hk, hr, ← c_main_v557__main_v1775 hag hel, ← c_main_arg9__main_arg9 hag hel]
  rfl

theorem c_main_v559__main_v1777 : StableHlo.after Cert.KernelIdeal.Hand.KOps (Cert.KernelIdeal.Hand.Wl (F := Ideal) m ρ c) (Proc.devRef .tc Cert.KernelIdeal.main_v559) = StableHlo.after (Cert.ReferenceIdeal.Hand.ops (F := Ideal)) (StableHlo.launchContents m' c) (Proc.devRef .tc Cert.ReferenceIdeal.main_v1777) := by
  have hk := StableHlo.Ascending.eq_unary Cert.KernelIdeal.Hand.KOps_asc (Cert.KernelIdeal.Hand.Wl m ρ c) (Cert.KernelIdeal.Hand.mem_KOps_st7 (Cert.KernelIdeal.Hand.mem_st_7_50 (List.getElem_mem (l := Cert.KernelIdeal.GenP.hostOps7_50 (F := Ideal)) (n := 3) (by decide)))) rfl rfl (by decide) (x := Cert.KernelIdeal.main_arg11) (y := Cert.KernelIdeal.main_v559) (f := open Cert.KernelIdeal Cert.KernelIdeal.Gen in (extractStridedSlice S1x16x16 ![0, 0, 0] · slices_S3x16x16_S1x16x16_0_0_0)) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part35 (List.getElem_mem (l := Cert.ReferenceIdeal.Hand.ops_part35 (F := Ideal)) (n := 116) (by decide))) rfl rfl (by decide) (x := Cert.ReferenceIdeal.main_arg11) (y := Cert.ReferenceIdeal.main_v1777) (f := open Cert.ReferenceIdeal Cert.ReferenceIdeal.Gen in (extractStridedSlice S1x16x16 ![0, 0, 0] · slices_S3x16x16_S1x16x16_0_0_0)) (hx := ⟨by decide, rfl⟩) (hy := ⟨by decide, rfl⟩)
  rw [hk, hr, ← c_main_arg11__main_arg11 hag hel]

theorem c_main_v560__main_v1778 : StableHlo.after Cert.KernelIdeal.Hand.KOps (Cert.KernelIdeal.Hand.Wl (F := Ideal) m ρ c) (Proc.devRef .tc Cert.KernelIdeal.main_v560) = StableHlo.after (Cert.ReferenceIdeal.Hand.ops (F := Ideal)) (StableHlo.launchContents m' c) (Proc.devRef .tc Cert.ReferenceIdeal.main_v1778) := by
  have hk := StableHlo.Ascending.eq_reshape Cert.KernelIdeal.Hand.KOps_asc (Cert.KernelIdeal.Hand.Wl m ρ c) (Cert.KernelIdeal.Hand.mem_KOps_st7 (Cert.KernelIdeal.Hand.mem_st_7_50 (List.getElem_mem (l := Cert.KernelIdeal.GenP.hostOps7_50 (F := Ideal)) (n := 4) (by decide)))) rfl rfl (by decide) (x := Cert.KernelIdeal.main_v559) (y := Cert.KernelIdeal.main_v560) (he := rfl) (hn := Cert.KernelIdeal.Gen.shapeCasts_S1x16x16_S16x16) (hx := ⟨by decide, rfl⟩) (hy := ⟨by decide, rfl⟩)
  have hr := StableHlo.Ascending.eq_reshape (Cert.ReferenceIdeal.Hand.ops_asc (F := Ideal)) (StableHlo.launchContents m' c) (Cert.ReferenceIdeal.Hand.mem_ops_part35 (List.getElem_mem (l := Cert.ReferenceIdeal.Hand.ops_part35 (F := Ideal)) (n := 117) (by decide))) rfl rfl (by decide) (x := Cert.ReferenceIdeal.main_v1777) (y := Cert.ReferenceIdeal.main_v1778) (he := rfl) (hn := Cert.ReferenceIdeal.Gen.shapeCasts_S1x16x16_S16x16) (hx := ⟨by decide, rfl⟩) (hy := ⟨by decide, rfl⟩)
  rw [hk, hr, ← c_main_v559__main_v1777 hag hel]
  rfl

theorem c_main_v561__main_v1779 : StableHlo.after Cert.KernelIdeal.Hand.KOps (Cert.KernelIdeal.Hand.Wl (F := Ideal) m ρ c) (Proc.devRef .tc Cert.KernelIdeal.main_v561) = StableHlo.after (Cert.ReferenceIdeal.Hand.ops (F := Ideal)) (StableHlo.launchContents m' c) (Proc.devRef .tc Cert.ReferenceIdeal.main_v1779) := by
  have hk := StableHlo.Ascending.eq_binary Cert.KernelIdeal.Hand.KOps_asc (Cert.KernelIdeal.Hand.Wl m ρ c) (Cert.KernelIdeal.Hand.mem_KOps_st7 (Cert.KernelIdeal.Hand.mem_st_7_50 (List.getElem_mem (l := Cert.KernelIdeal.GenP.hostOps7_50 (F := Ideal)) (n := 5) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part36 (List.getElem_mem (l := Cert.ReferenceIdeal.Hand.ops_part36 (F := Ideal)) (n := 0) (by decide))) rfl rfl rfl (by decide) (by decide) (ha := ⟨by decide, rfl⟩) (hb := ⟨by decide, rfl⟩) (hy := ⟨by decide, rfl⟩)
  rw [hk, hr, ← c_main_v560__main_v1778 hag hel, ← c_main_arg9__main_arg9 hag hel]
  rfl

theorem c_main_v562__main_v1780 : StableHlo.after Cert.KernelIdeal.Hand.KOps (Cert.KernelIdeal.Hand.Wl (F := Ideal) m ρ c) (Proc.devRef .tc Cert.KernelIdeal.main_v562) = StableHlo.after (Cert.ReferenceIdeal.Hand.ops (F := Ideal)) (StableHlo.launchContents m' c) (Proc.devRef .tc Cert.ReferenceIdeal.main_v1780) := by
  have hk := StableHlo.Ascending.eq_binary Cert.KernelIdeal.Hand.KOps_asc (Cert.KernelIdeal.Hand.Wl m ρ c) (Cert.KernelIdeal.Hand.mem_KOps_st7 (Cert.KernelIdeal.Hand.mem_st_7_50 (List.getElem_mem (l := Cert.KernelIdeal.GenP.hostOps7_50 (F := Ideal)) (n := 6) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part36 (List.getElem_mem (l := Cert.ReferenceIdeal.Hand.ops_part36 (F := Ideal)) (n := 1) (by decide))) rfl rfl rfl (by decide) (by decide) (ha := ⟨by decide, rfl⟩) (hb := ⟨by decide, rfl⟩) (hy := ⟨by decide, rfl⟩)
  rw [hk, hr, ← c_main_v558__main_v1776 hag hel, ← c_main_v561__main_v1779 hag hel]

theorem c_main_v563__main_v1781 : StableHlo.after Cert.KernelIdeal.Hand.KOps (Cert.KernelIdeal.Hand.Wl (F := Ideal) m ρ c) (Proc.devRef .tc Cert.KernelIdeal.main_v563) = StableHlo.after (Cert.ReferenceIdeal.Hand.ops (F := Ideal)) (StableHlo.launchContents m' c) (Proc.devRef .tc Cert.ReferenceIdeal.main_v1781) := by
  have hk := StableHlo.Ascending.eq_unary Cert.KernelIdeal.Hand.KOps_asc (Cert.KernelIdeal.Hand.Wl m ρ c) (Cert.KernelIdeal.Hand.mem_KOps_st7 (Cert.KernelIdeal.Hand.mem_st_7_50 (List.getElem_mem (l := Cert.KernelIdeal.GenP.hostOps7_50 (F := Ideal)) (n := 7) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part36 (List.getElem_mem (l := Cert.ReferenceIdeal.Hand.ops_part36 (F := Ideal)) (n := 2) (by decide))) rfl rfl (by decide) (hx := ⟨by decide, rfl⟩) (hy := ⟨by decide, rfl⟩)
  rw [hk, hr, ← c_main_v562__main_v1780 hag hel]

theorem c_main_v564__main_v1782 : StableHlo.after Cert.KernelIdeal.Hand.KOps (Cert.KernelIdeal.Hand.Wl (F := Ideal) m ρ c) (Proc.devRef .tc Cert.KernelIdeal.main_v564) = StableHlo.after (Cert.ReferenceIdeal.Hand.ops (F := Ideal)) (StableHlo.launchContents m' c) (Proc.devRef .tc Cert.ReferenceIdeal.main_v1782) := by
  have hk := StableHlo.Ascending.eq_unary Cert.KernelIdeal.Hand.KOps_asc (Cert.KernelIdeal.Hand.Wl m ρ c) (Cert.KernelIdeal.Hand.mem_KOps_st7 (Cert.KernelIdeal.Hand.mem_st_7_50 (List.getElem_mem (l := Cert.KernelIdeal.GenP.hostOps7_50 (F := Ideal)) (n := 8) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part36 (List.getElem_mem (l := Cert.ReferenceIdeal.Hand.ops_part36 (F := Ideal)) (n := 3) (by decide))) rfl rfl (by decide) (hx := ⟨by decide, rfl⟩) (hy := ⟨by decide, rfl⟩)
  rw [hk, hr, ← c_main_v563__main_v1781 hag hel]

theorem c_main_cst_111__main_cst_379 : StableHlo.after Cert.KernelIdeal.Hand.KOps (Cert.KernelIdeal.Hand.Wl (F := Ideal) m ρ c) (Proc.devRef .tc Cert.KernelIdeal.main_cst_111) = StableHlo.after (Cert.ReferenceIdeal.Hand.ops (F := Ideal)) (StableHlo.launchContents m' c) (Proc.devRef .tc Cert.ReferenceIdeal.main_cst_379) := by
  have hk := StableHlo.Ascending.eq_nullary Cert.KernelIdeal.Hand.KOps_asc (Cert.KernelIdeal.Hand.Wl m ρ c) (Cert.KernelIdeal.Hand.mem_KOps_st7 (Cert.KernelIdeal.Hand.mem_st_7_50 (List.getElem_mem (l := Cert.KernelIdeal.GenP.hostOps7_50 (F := Ideal)) (n := 9) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part36 (List.getElem_mem (l := Cert.ReferenceIdeal.Hand.ops_part36 (F := Ideal)) (n := 4) (by decide))) rfl (hy := ⟨by decide, rfl⟩)
  rw [hk, hr]

theorem c_main_v565__main_v1783 : StableHlo.after Cert.KernelIdeal.Hand.KOps (Cert.KernelIdeal.Hand.Wl (F := Ideal) m ρ c) (Proc.devRef .tc Cert.KernelIdeal.main_v565) = StableHlo.after (Cert.ReferenceIdeal.Hand.ops (F := Ideal)) (StableHlo.launchContents m' c) (Proc.devRef .tc Cert.ReferenceIdeal.main_v1783) := by
  have hk := StableHlo.Ascending.eq_unary Cert.KernelIdeal.Hand.KOps_asc (Cert.KernelIdeal.Hand.Wl m ρ c) (Cert.KernelIdeal.Hand.mem_KOps_st7 (Cert.KernelIdeal.Hand.mem_st_7_50 (List.getElem_mem (l := Cert.KernelIdeal.GenP.hostOps7_50 (F := Ideal)) (n := 10) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part36 (List.getElem_mem (l := Cert.ReferenceIdeal.Hand.ops_part36 (F := Ideal)) (n := 5) (by decide))) rfl rfl (by decide) (hx := ⟨by decide, rfl⟩) (hy := ⟨by decide, rfl⟩)
  rw [hk, hr, ← c_main_cst_111__main_cst_379 hag hel]

theorem c_main_v566__main_v1784 : StableHlo.after Cert.KernelIdeal.Hand.KOps (Cert.KernelIdeal.Hand.Wl (F := Ideal) m ρ c) (Proc.devRef .tc Cert.KernelIdeal.main_v566) = StableHlo.after (Cert.ReferenceIdeal.Hand.ops (F := Ideal)) (StableHlo.launchContents m' c) (Proc.devRef .tc Cert.ReferenceIdeal.main_v1784) := by
  have hk := StableHlo.Ascending.eq_binary Cert.KernelIdeal.Hand.KOps_asc (Cert.KernelIdeal.Hand.Wl m ρ c) (Cert.KernelIdeal.Hand.mem_KOps_st7 (Cert.KernelIdeal.Hand.mem_st_7_50 (List.getElem_mem (l := Cert.KernelIdeal.GenP.hostOps7_50 (F := Ideal)) (n := 11) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part36 (List.getElem_mem (l := Cert.ReferenceIdeal.Hand.ops_part36 (F := Ideal)) (n := 6) (by decide))) rfl rfl rfl (by decide) (by decide) (ha := ⟨by decide, rfl⟩) (hb := ⟨by decide, rfl⟩) (hy := ⟨by decide, rfl⟩)
  rw [hk, hr, ← c_main_v565__main_v1783 hag hel, ← c_main_v564__main_v1782 hag hel]

theorem c_main_cst_112__main_cst_380 : StableHlo.after Cert.KernelIdeal.Hand.KOps (Cert.KernelIdeal.Hand.Wl (F := Ideal) m ρ c) (Proc.devRef .tc Cert.KernelIdeal.main_cst_112) = StableHlo.after (Cert.ReferenceIdeal.Hand.ops (F := Ideal)) (StableHlo.launchContents m' c) (Proc.devRef .tc Cert.ReferenceIdeal.main_cst_380) := by
  have hk := StableHlo.Ascending.eq_nullary Cert.KernelIdeal.Hand.KOps_asc (Cert.KernelIdeal.Hand.Wl m ρ c) (Cert.KernelIdeal.Hand.mem_KOps_st7 (Cert.KernelIdeal.Hand.mem_st_7_50 (List.getElem_mem (l := Cert.KernelIdeal.GenP.hostOps7_50 (F := Ideal)) (n := 12) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part36 (List.getElem_mem (l := Cert.ReferenceIdeal.Hand.ops_part36 (F := Ideal)) (n := 7) (by decide))) rfl (hy := ⟨by decide, rfl⟩)
  rw [hk, hr]

theorem c_main_v567__main_v1785 : StableHlo.after Cert.KernelIdeal.Hand.KOps (Cert.KernelIdeal.Hand.Wl (F := Ideal) m ρ c) (Proc.devRef .tc Cert.KernelIdeal.main_v567) = StableHlo.after (Cert.ReferenceIdeal.Hand.ops (F := Ideal)) (StableHlo.launchContents m' c) (Proc.devRef .tc Cert.ReferenceIdeal.main_v1785) := by
  have hk := StableHlo.Ascending.eq_unary Cert.KernelIdeal.Hand.KOps_asc (Cert.KernelIdeal.Hand.Wl m ρ c) (Cert.KernelIdeal.Hand.mem_KOps_st7 (Cert.KernelIdeal.Hand.mem_st_7_50 (List.getElem_mem (l := Cert.KernelIdeal.GenP.hostOps7_50 (F := Ideal)) (n := 13) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part36 (List.getElem_mem (l := Cert.ReferenceIdeal.Hand.ops_part36 (F := Ideal)) (n := 8) (by decide))) rfl rfl (by decide) (hx := ⟨by decide, rfl⟩) (hy := ⟨by decide, rfl⟩)
  rw [hk, hr, ← c_main_cst_112__main_cst_380 hag hel]

end Cert.Value

end
-- ==== Proof.Val.C017.lean ====
/- Steps C017 of the value claim's chain: for each listed pair, the kernel program's buffer and its reference twin hold equal contents at the two programs' final
   valuations — the two operations are the same function (read off the two operation lists) of operands already paired. A table; written by: bun scratch/corr.js 60 -/
import proofs.«146970_j35948876268088_1_alg».proof.Proof.Val.Seed
import proofs.«146970_j35948876268088_1_alg».proof.Proof.KI.Dots
import Mathlib.Tactic.FinCases
import proofs.«146970_j35948876268088_1_alg».proof.Proof.Val.C016

set_option maxRecDepth 16384

noncomputable section

namespace Cert.Value

open Idealize.ShloMosaic Idealize.ShloMosaic.TcCoe Idealize.SL.Sem

variable {m : (ℓ : Loc Cert.KernelIdeal.nD Cert.KernelIdeal.τ Cert.KernelIdeal.sig) → Buf (Elt Ideal) ℓ} {ρ : Dev Cert.KernelIdeal.nD → PrngReg}
  {m' : (ℓ : Loc Cert.ReferenceIdeal.nD Cert.ReferenceIdeal.τ Cert.ReferenceIdeal.sig) → Buf (Elt Ideal) ℓ} {c : Dev Cert.KernelIdeal.nD} (hag : Agree m m') (hel : Els m' c)
include hag hel

theorem c_main_v568__main_v1786 : StableHlo.after Cert.KernelIdeal.Hand.KOps (Cert.KernelIdeal.Hand.Wl (F := Ideal) m ρ c) (Proc.devRef .tc Cert.KernelIdeal.main_v568) = StableHlo.after (Cert.ReferenceIdeal.Hand.ops (F := Ideal)) (StableHlo.launchContents m' c) (Proc.devRef .tc Cert.ReferenceIdeal.main_v1786) := by
  have hk := StableHlo.Ascending.eq_binary Cert.KernelIdeal.Hand.KOps_asc (Cert.KernelIdeal.Hand.Wl m ρ c) (Cert.KernelIdeal.Hand.mem_KOps_st7 (Cert.KernelIdeal.Hand.mem_st_7_50 (List.getElem_mem (l := Cert.KernelIdeal.GenP.hostOps7_50 (F := Ideal)) (n := 14) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part36 (List.getElem_mem (l := Cert.ReferenceIdeal.Hand.ops_part36 (F := Ideal)) (n := 9) (by decide))) rfl rfl rfl (by decide) (by decide) (ha := ⟨by decide, rfl⟩) (hb := ⟨by decide, rfl⟩) (hy := ⟨by decide, rfl⟩)
  rw [hk, hr, ← c_main_v567__main_v1785 hag hel, ← c_main_v566__main_v1784 hag hel]

theorem c_main_v569__main_v1787 : StableHlo.after Cert.KernelIdeal.Hand.KOps (Cert.KernelIdeal.Hand.Wl (F := Ideal) m ρ c) (Proc.devRef .tc Cert.KernelIdeal.main_v569) = StableHlo.after (Cert.ReferenceIdeal.Hand.ops (F := Ideal)) (StableHlo.launchContents m' c) (Proc.devRef .tc Cert.ReferenceIdeal.main_v1787) := by
  have hk := StableHlo.Ascending.eq_unary Cert.KernelIdeal.Hand.KOps_asc (Cert.KernelIdeal.Hand.Wl m ρ c) (Cert.KernelIdeal.Hand.mem_KOps_st7 (Cert.KernelIdeal.Hand.mem_st_7_50 (List.getElem_mem (l := Cert.KernelIdeal.GenP.hostOps7_50 (F := Ideal)) (n := 15) (by decide)))) rfl rfl (by decide) (x := Cert.KernelIdeal.main_arg10) (y := Cert.KernelIdeal.main_v569) (f := open Cert.KernelIdeal Cert.KernelIdeal.Gen in (extractStridedSlice S1x16x16 ![1, 0, 0] · slices_S3x16x16_S1x16x16_1_0_0)) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part36 (List.getElem_mem (l := Cert.ReferenceIdeal.Hand.ops_part36 (F := Ideal)) (n := 10) (by decide))) rfl rfl (by decide) (x := Cert.ReferenceIdeal.main_arg10) (y := Cert.ReferenceIdeal.main_v1787) (f := open Cert.ReferenceIdeal Cert.ReferenceIdeal.Gen in (extractStridedSlice S1x16x16 ![1, 0, 0] · slices_S3x16x16_S1x16x16_1_0_0)) (hx := ⟨by decide, rfl⟩) (hy := ⟨by decide, rfl⟩)
  rw [hk, hr, ← c_main_arg10__main_arg10 hag hel]

theorem c_main_v570__main_v1788 : StableHlo.after Cert.KernelIdeal.Hand.KOps (Cert.KernelIdeal.Hand.Wl (F := Ideal) m ρ c) (Proc.devRef .tc Cert.KernelIdeal.main_v570) = StableHlo.after (Cert.ReferenceIdeal.Hand.ops (F := Ideal)) (StableHlo.launchContents m' c) (Proc.devRef .tc Cert.ReferenceIdeal.main_v1788) := by
  have hk := StableHlo.Ascending.eq_reshape Cert.KernelIdeal.Hand.KOps_asc (Cert.KernelIdeal.Hand.Wl m ρ c) (Cert.KernelIdeal.Hand.mem_KOps_st7 (Cert.KernelIdeal.Hand.mem_st_7_50 (List.getElem_mem (l := Cert.KernelIdeal.GenP.hostOps7_50 (F := Ideal)) (n := 16) (by decide)))) rfl rfl (by decide) (x := Cert.KernelIdeal.main_v569) (y := Cert.KernelIdeal.main_v570) (he := rfl) (hn := Cert.KernelIdeal.Gen.shapeCasts_S1x16x16_S16x16) (hx := ⟨by decide, rfl⟩) (hy := ⟨by decide, rfl⟩)
  have hr := StableHlo.Ascending.eq_reshape (Cert.ReferenceIdeal.Hand.ops_asc (F := Ideal)) (StableHlo.launchContents m' c) (Cert.ReferenceIdeal.Hand.mem_ops_part36 (List.getElem_mem (l := Cert.ReferenceIdeal.Hand.ops_part36 (F := Ideal)) (n := 11) (by decide))) rfl rfl (by decide) (x := Cert.ReferenceIdeal.main_v1787) (y := Cert.ReferenceIdeal.main_v1788) (he := rfl) (hn := Cert.ReferenceIdeal.Gen.shapeCasts_S1x16x16_S16x16) (hx := ⟨by decide, rfl⟩) (hy := ⟨by decide, rfl⟩)
  rw [hk, hr, ← c_main_v569__main_v1787 hag hel]
  rfl

theorem c_main_v571__main_v1789 : StableHlo.after Cert.KernelIdeal.Hand.KOps (Cert.KernelIdeal.Hand.Wl (F := Ideal) m ρ c) (Proc.devRef .tc Cert.KernelIdeal.main_v571) = StableHlo.after (Cert.ReferenceIdeal.Hand.ops (F := Ideal)) (StableHlo.launchContents m' c) (Proc.devRef .tc Cert.ReferenceIdeal.main_v1789) := by
  have hk := StableHlo.Ascending.eq_binary Cert.KernelIdeal.Hand.KOps_asc (Cert.KernelIdeal.Hand.Wl m ρ c) (Cert.KernelIdeal.Hand.mem_KOps_st7 (Cert.KernelIdeal.Hand.mem_st_7_50 (List.getElem_mem (l := Cert.KernelIdeal.GenP.hostOps7_50 (F := Ideal)) (n := 17) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part36 (List.getElem_mem (l := Cert.ReferenceIdeal.Hand.ops_part36 (F := Ideal)) (n := 12) (by decide))) rfl rfl rfl (by decide) (by decide) (ha := ⟨by decide, rfl⟩) (hb := ⟨by decide, rfl⟩) (hy := ⟨by decide, rfl⟩)
  rw [hk, hr, ← c_main_v570__main_v1788 hag hel, ← c_main_arg9__main_arg9 hag hel]
  rfl

theorem c_main_v572__main_v1790 : StableHlo.after Cert.KernelIdeal.Hand.KOps (Cert.KernelIdeal.Hand.Wl (F := Ideal) m ρ c) (Proc.devRef .tc Cert.KernelIdeal.main_v572) = StableHlo.after (Cert.ReferenceIdeal.Hand.ops (F := Ideal)) (StableHlo.launchContents m' c) (Proc.devRef .tc Cert.ReferenceIdeal.main_v1790) := by
  have hk := StableHlo.Ascending.eq_unary Cert.KernelIdeal.Hand.KOps_asc (Cert.KernelIdeal.Hand.Wl m ρ c) (Cert.KernelIdeal.Hand.mem_KOps_st7 (Cert.KernelIdeal.Hand.mem_st_7_50 (List.getElem_mem (l := Cert.KernelIdeal.GenP.hostOps7_50 (F := Ideal)) (n := 18) (by decide)))) rfl rfl (by decide) (x := Cert.KernelIdeal.main_arg11) (y := Cert.KernelIdeal.main_v572) (f := open Cert.KernelIdeal Cert.KernelIdeal.Gen in (extractStridedSlice S1x16x16 ![1, 0, 0] · slices_S3x16x16_S1x16x16_1_0_0)) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part36 (List.getElem_mem (l := Cert.ReferenceIdeal.Hand.ops_part36 (F := Ideal)) (n := 13) (by decide))) rfl rfl (by decide) (x := Cert.ReferenceIdeal.main_arg11) (y := Cert.ReferenceIdeal.main_v1790) (f := open Cert.ReferenceIdeal Cert.ReferenceIdeal.Gen in (extractStridedSlice S1x16x16 ![1, 0, 0] · slices_S3x16x16_S1x16x16_1_0_0)) (hx := ⟨by decide, rfl⟩) (hy := ⟨by decide, rfl⟩)
  rw [hk, hr, ← c_main_arg11__main_arg11 hag hel]

theorem c_main_v573__main_v1791 : StableHlo.after Cert.KernelIdeal.Hand.KOps (Cert.KernelIdeal.Hand.Wl (F := Ideal) m ρ c) (Proc.devRef .tc Cert.KernelIdeal.main_v573) = StableHlo.after (Cert.ReferenceIdeal.Hand.ops (F := Ideal)) (StableHlo.launchContents m' c) (Proc.devRef .tc Cert.ReferenceIdeal.main_v1791) := by
  have hk := StableHlo.Ascending.eq_reshape Cert.KernelIdeal.Hand.KOps_asc (Cert.KernelIdeal.Hand.Wl m ρ c) (Cert.KernelIdeal.Hand.mem_KOps_st7 (Cert.KernelIdeal.Hand.mem_st_7_50 (List.getElem_mem (l := Cert.KernelIdeal.GenP.hostOps7_50 (F := Ideal)) (n := 19) (by decide)))) rfl rfl (by decide) (x := Cert.KernelIdeal.main_v572) (y := Cert.KernelIdeal.main_v573) (he := rfl) (hn := Cert.KernelIdeal.Gen.shapeCasts_S1x16x16_S16x16) (hx := ⟨by decide, rfl⟩) (hy := ⟨by decide, rfl⟩)
  have hr := StableHlo.Ascending.eq_reshape (Cert.ReferenceIdeal.Hand.ops_asc (F := Ideal)) (StableHlo.launchContents m' c) (Cert.ReferenceIdeal.Hand.mem_ops_part36 (List.getElem_mem (l := Cert.ReferenceIdeal.Hand.ops_part36 (F := Ideal)) (n := 14) (by decide))) rfl rfl (by decide) (x := Cert.ReferenceIdeal.main_v1790) (y := Cert.ReferenceIdeal.main_v1791) (he := rfl) (hn := Cert.ReferenceIdeal.Gen.shapeCasts_S1x16x16_S16x16) (hx := ⟨by decide, rfl⟩) (hy := ⟨by decide, rfl⟩)
  rw [hk, hr, ← c_main_v572__main_v1790 hag hel]
  rfl

theorem c_main_v574__main_v1792 : StableHlo.after Cert.KernelIdeal.Hand.KOps (Cert.KernelIdeal.Hand.Wl (F := Ideal) m ρ c) (Proc.devRef .tc Cert.KernelIdeal.main_v574) = StableHlo.after (Cert.ReferenceIdeal.Hand.ops (F := Ideal)) (StableHlo.launchContents m' c) (Proc.devRef .tc Cert.ReferenceIdeal.main_v1792) := by
  have hk := StableHlo.Ascending.eq_binary Cert.KernelIdeal.Hand.KOps_asc (Cert.KernelIdeal.Hand.Wl m ρ c) (Cert.KernelIdeal.Hand.mem_KOps_st7 (Cert.KernelIdeal.Hand.mem_st_7_50 (List.getElem_mem (l := Cert.KernelIdeal.GenP.hostOps7_50 (F := Ideal)) (n := 20) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part36 (List.getElem_mem (l := Cert.ReferenceIdeal.Hand.ops_part36 (F := Ideal)) (n := 15) (by decide))) rfl rfl rfl (by decide) (by decide) (ha := ⟨by decide, rfl⟩) (hb := ⟨by decide, rfl⟩) (hy := ⟨by decide, rfl⟩)
  rw [hk, hr, ← c_main_v573__main_v1791 hag hel, ← c_main_arg9__main_arg9 hag hel]
  rfl

theorem c_main_v575__main_v1793 : StableHlo.after Cert.KernelIdeal.Hand.KOps (Cert.KernelIdeal.Hand.Wl (F := Ideal) m ρ c) (Proc.devRef .tc Cert.KernelIdeal.main_v575) = StableHlo.after (Cert.ReferenceIdeal.Hand.ops (F := Ideal)) (StableHlo.launchContents m' c) (Proc.devRef .tc Cert.ReferenceIdeal.main_v1793) := by
  have hk := StableHlo.Ascending.eq_binary Cert.KernelIdeal.Hand.KOps_asc (Cert.KernelIdeal.Hand.Wl m ρ c) (Cert.KernelIdeal.Hand.mem_KOps_st7 (Cert.KernelIdeal.Hand.mem_st_7_50 (List.getElem_mem (l := Cert.KernelIdeal.GenP.hostOps7_50 (F := Ideal)) (n := 21) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part36 (List.getElem_mem (l := Cert.ReferenceIdeal.Hand.ops_part36 (F := Ideal)) (n := 16) (by decide))) rfl rfl rfl (by decide) (by decide) (ha := ⟨by decide, rfl⟩) (hb := ⟨by decide, rfl⟩) (hy := ⟨by decide, rfl⟩)
  rw [hk, hr, ← c_main_v571__main_v1789 hag hel, ← c_main_v574__main_v1792 hag hel]

theorem c_main_v576__main_v1794 : StableHlo.after Cert.KernelIdeal.Hand.KOps (Cert.KernelIdeal.Hand.Wl (F := Ideal) m ρ c) (Proc.devRef .tc Cert.KernelIdeal.main_v576) = StableHlo.after (Cert.ReferenceIdeal.Hand.ops (F := Ideal)) (StableHlo.launchContents m' c) (Proc.devRef .tc Cert.ReferenceIdeal.main_v1794) := by
  have hk := StableHlo.Ascending.eq_unary Cert.KernelIdeal.Hand.KOps_asc (Cert.KernelIdeal.Hand.Wl m ρ c) (Cert.KernelIdeal.Hand.mem_KOps_st7 (Cert.KernelIdeal.Hand.mem_st_7_50 (List.getElem_mem (l := Cert.KernelIdeal.GenP.hostOps7_50 (F := Ideal)) (n := 22) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part36 (List.getElem_mem (l := Cert.ReferenceIdeal.Hand.ops_part36 (F := Ideal)) (n := 17) (by decide))) rfl rfl (by decide) (hx := ⟨by decide, rfl⟩) (hy := ⟨by decide, rfl⟩)
  rw [hk, hr, ← c_main_v575__main_v1793 hag hel]

theorem c_main_v577__main_v1795 : StableHlo.after Cert.KernelIdeal.Hand.KOps (Cert.KernelIdeal.Hand.Wl (F := Ideal) m ρ c) (Proc.devRef .tc Cert.KernelIdeal.main_v577) = StableHlo.after (Cert.ReferenceIdeal.Hand.ops (F := Ideal)) (StableHlo.launchContents m' c) (Proc.devRef .tc Cert.ReferenceIdeal.main_v1795) := by
  have hk := StableHlo.Ascending.eq_unary Cert.KernelIdeal.Hand.KOps_asc (Cert.KernelIdeal.Hand.Wl m ρ c) (Cert.KernelIdeal.Hand.mem_KOps_st7 (Cert.KernelIdeal.Hand.mem_st_7_50 (List.getElem_mem (l := Cert.KernelIdeal.GenP.hostOps7_50 (F := Ideal)) (n := 23) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part36 (List.getElem_mem (l := Cert.ReferenceIdeal.Hand.ops_part36 (F := Ideal)) (n := 18) (by decide))) rfl rfl (by decide) (hx := ⟨by decide, rfl⟩) (hy := ⟨by decide, rfl⟩)
  rw [hk, hr, ← c_main_v576__main_v1794 hag hel]

theorem c_main_cst_113__main_cst_381 : StableHlo.after Cert.KernelIdeal.Hand.KOps (Cert.KernelIdeal.Hand.Wl (F := Ideal) m ρ c) (Proc.devRef .tc Cert.KernelIdeal.main_cst_113) = StableHlo.after (Cert.ReferenceIdeal.Hand.ops (F := Ideal)) (StableHlo.launchContents m' c) (Proc.devRef .tc Cert.ReferenceIdeal.main_cst_381) := by
  have hk := StableHlo.Ascending.eq_nullary Cert.KernelIdeal.Hand.KOps_asc (Cert.KernelIdeal.Hand.Wl m ρ c) (Cert.KernelIdeal.Hand.mem_KOps_st7 (Cert.KernelIdeal.Hand.mem_st_7_50 (List.getElem_mem (l := Cert.KernelIdeal.GenP.hostOps7_50 (F := Ideal)) (n := 24) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part36 (List.getElem_mem (l := Cert.ReferenceIdeal.Hand.ops_part36 (F := Ideal)) (n := 19) (by decide))) rfl (hy := ⟨by decide, rfl⟩)
  rw [hk, hr]

theorem c_main_v578__main_v1796 : StableHlo.after Cert.KernelIdeal.Hand.KOps (Cert.KernelIdeal.Hand.Wl (F := Ideal) m ρ c) (Proc.devRef .tc Cert.KernelIdeal.main_v578) = StableHlo.after (Cert.ReferenceIdeal.Hand.ops (F := Ideal)) (StableHlo.launchContents m' c) (Proc.devRef .tc Cert.ReferenceIdeal.main_v1796) := by
  have hk := StableHlo.Ascending.eq_unary Cert.KernelIdeal.Hand.KOps_asc (Cert.KernelIdeal.Hand.Wl m ρ c) (Cert.KernelIdeal.Hand.mem_KOps_st7 (Cert.KernelIdeal.Hand.mem_st_7_50 (List.getElem_mem (l := Cert.KernelIdeal.GenP.hostOps7_50 (F := Ideal)) (n := 25) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part36 (List.getElem_mem (l := Cert.ReferenceIdeal.Hand.ops_part36 (F := Ideal)) (n := 20) (by decide))) rfl rfl (by decide) (hx := ⟨by decide, rfl⟩) (hy := ⟨by decide, rfl⟩)
  rw [hk, hr, ← c_main_cst_113__main_cst_381 hag hel]

theorem c_main_v579__main_v1797 : StableHlo.after Cert.KernelIdeal.Hand.KOps (Cert.KernelIdeal.Hand.Wl (F := Ideal) m ρ c) (Proc.devRef .tc Cert.KernelIdeal.main_v579) = StableHlo.after (Cert.ReferenceIdeal.Hand.ops (F := Ideal)) (StableHlo.launchContents m' c) (Proc.devRef .tc Cert.ReferenceIdeal.main_v1797) := by
  have hk := StableHlo.Ascending.eq_binary Cert.KernelIdeal.Hand.KOps_asc (Cert.KernelIdeal.Hand.Wl m ρ c) (Cert.KernelIdeal.Hand.mem_KOps_st7 (Cert.KernelIdeal.Hand.mem_st_7_50 (List.getElem_mem (l := Cert.KernelIdeal.GenP.hostOps7_50 (F := Ideal)) (n := 26) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part36 (List.getElem_mem (l := Cert.ReferenceIdeal.Hand.ops_part36 (F := Ideal)) (n := 21) (by decide))) rfl rfl rfl (by decide) (by decide) (ha := ⟨by decide, rfl⟩) (hb := ⟨by decide, rfl⟩) (hy := ⟨by decide, rfl⟩)
  rw [hk, hr, ← c_main_v578__main_v1796 hag hel, ← c_main_v577__main_v1795 hag hel]

theorem c_main_cst_114__main_cst_382 : StableHlo.after Cert.KernelIdeal.Hand.KOps (Cert.KernelIdeal.Hand.Wl (F := Ideal) m ρ c) (Proc.devRef .tc Cert.KernelIdeal.main_cst_114) = StableHlo.after (Cert.ReferenceIdeal.Hand.ops (F := Ideal)) (StableHlo.launchContents m' c) (Proc.devRef .tc Cert.ReferenceIdeal.main_cst_382) := by
  have hk := StableHlo.Ascending.eq_nullary Cert.KernelIdeal.Hand.KOps_asc (Cert.KernelIdeal.Hand.Wl m ρ c) (Cert.KernelIdeal.Hand.mem_KOps_st7 (Cert.KernelIdeal.Hand.mem_st_7_50 (List.getElem_mem (l := Cert.KernelIdeal.GenP.hostOps7_50 (F := Ideal)) (n := 27) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part36 (List.getElem_mem (l := Cert.ReferenceIdeal.Hand.ops_part36 (F := Ideal)) (n := 22) (by decide))) rfl (hy := ⟨by decide, rfl⟩)
  rw [hk, hr]

theorem c_main_v580__main_v1798 : StableHlo.after Cert.KernelIdeal.Hand.KOps (Cert.KernelIdeal.Hand.Wl (F := Ideal) m ρ c) (Proc.devRef .tc Cert.KernelIdeal.main_v580) = StableHlo.after (Cert.ReferenceIdeal.Hand.ops (F := Ideal)) (StableHlo.launchContents m' c) (Proc.devRef .tc Cert.ReferenceIdeal.main_v1798) := by
  have hk := StableHlo.Ascending.eq_unary Cert.KernelIdeal.Hand.KOps_asc (Cert.KernelIdeal.Hand.Wl m ρ c) (Cert.KernelIdeal.Hand.mem_KOps_st7 (Cert.KernelIdeal.Hand.mem_st_7_50 (List.getElem_mem (l := Cert.KernelIdeal.GenP.hostOps7_50 (F := Ideal)) (n := 28) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part36 (List.getElem_mem (l := Cert.ReferenceIdeal.Hand.ops_part36 (F := Ideal)) (n := 23) (by decide))) rfl rfl (by decide) (hx := ⟨by decide, rfl⟩) (hy := ⟨by decide, rfl⟩)
  rw [hk, hr, ← c_main_cst_114__main_cst_382 hag hel]

theorem c_main_v581__main_v1799 : StableHlo.after Cert.KernelIdeal.Hand.KOps (Cert.KernelIdeal.Hand.Wl (F := Ideal) m ρ c) (Proc.devRef .tc Cert.KernelIdeal.main_v581) = StableHlo.after (Cert.ReferenceIdeal.Hand.ops (F := Ideal)) (StableHlo.launchContents m' c) (Proc.devRef .tc Cert.ReferenceIdeal.main_v1799) := by
  have hk := StableHlo.Ascending.eq_binary Cert.KernelIdeal.Hand.KOps_asc (Cert.KernelIdeal.Hand.Wl m ρ c) (Cert.KernelIdeal.Hand.mem_KOps_st7 (Cert.KernelIdeal.Hand.mem_st_7_50 (List.getElem_mem (l := Cert.KernelIdeal.GenP.hostOps7_50 (F := Ideal)) (n := 29) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part36 (List.getElem_mem (l := Cert.ReferenceIdeal.Hand.ops_part36 (F := Ideal)) (n := 24) (by decide))) rfl rfl rfl (by decide) (by decide) (ha := ⟨by decide, rfl⟩) (hb := ⟨by decide, rfl⟩) (hy := ⟨by decide, rfl⟩)
  rw [hk, hr, ← c_main_v580__main_v1798 hag hel, ← c_main_v579__main_v1797 hag hel]

theorem c_main_v582__main_v1800 : StableHlo.after Cert.KernelIdeal.Hand.KOps (Cert.KernelIdeal.Hand.Wl (F := Ideal) m ρ c) (Proc.devRef .tc Cert.KernelIdeal.main_v582) = StableHlo.after (Cert.ReferenceIdeal.Hand.ops (F := Ideal)) (StableHlo.launchContents m' c) (Proc.devRef .tc Cert.ReferenceIdeal.main_v1800) := by
  have hk := StableHlo.Ascending.eq_unary Cert.KernelIdeal.Hand.KOps_asc (Cert.KernelIdeal.Hand.Wl m ρ c) (Cert.KernelIdeal.Hand.mem_KOps_st7 (Cert.KernelIdeal.Hand.mem_st_7_50 (List.getElem_mem (l := Cert.KernelIdeal.GenP.hostOps7_50 (F := Ideal)) (n := 30) (by decide)))) rfl rfl (by decide) (x := Cert.KernelIdeal.main_arg10) (y := Cert.KernelIdeal.main_v582) (f := open Cert.KernelIdeal Cert.KernelIdeal.Gen in (extractStridedSlice S1x16x16 ![2, 0, 0] · slices_S3x16x16_S1x16x16_2_0_0)) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part36 (List.getElem_mem (l := Cert.ReferenceIdeal.Hand.ops_part36 (F := Ideal)) (n := 25) (by decide))) rfl rfl (by decide) (x := Cert.ReferenceIdeal.main_arg10) (y := Cert.ReferenceIdeal.main_v1800) (f := open Cert.ReferenceIdeal Cert.ReferenceIdeal.Gen in (extractStridedSlice S1x16x16 ![2, 0, 0] · slices_S3x16x16_S1x16x16_2_0_0)) (hx := ⟨by decide, rfl⟩) (hy := ⟨by decide, rfl⟩)
  rw [hk, hr, ← c_main_arg10__main_arg10 hag hel]

theorem c_main_v583__main_v1801 : StableHlo.after Cert.KernelIdeal.Hand.KOps (Cert.KernelIdeal.Hand.Wl (F := Ideal) m ρ c) (Proc.devRef .tc Cert.KernelIdeal.main_v583) = StableHlo.after (Cert.ReferenceIdeal.Hand.ops (F := Ideal)) (StableHlo.launchContents m' c) (Proc.devRef .tc Cert.ReferenceIdeal.main_v1801) := by
  have hk := StableHlo.Ascending.eq_reshape Cert.KernelIdeal.Hand.KOps_asc (Cert.KernelIdeal.Hand.Wl m ρ c) (Cert.KernelIdeal.Hand.mem_KOps_st7 (Cert.KernelIdeal.Hand.mem_st_7_50 (List.getElem_mem (l := Cert.KernelIdeal.GenP.hostOps7_50 (F := Ideal)) (n := 31) (by decide)))) rfl rfl (by decide) (x := Cert.KernelIdeal.main_v582) (y := Cert.KernelIdeal.main_v583) (he := rfl) (hn := Cert.KernelIdeal.Gen.shapeCasts_S1x16x16_S16x16) (hx := ⟨by decide, rfl⟩) (hy := ⟨by decide, rfl⟩)
  have hr := StableHlo.Ascending.eq_reshape (Cert.ReferenceIdeal.Hand.ops_asc (F := Ideal)) (StableHlo.launchContents m' c) (Cert.ReferenceIdeal.Hand.mem_ops_part36 (List.getElem_mem (l := Cert.ReferenceIdeal.Hand.ops_part36 (F := Ideal)) (n := 26) (by decide))) rfl rfl (by decide) (x := Cert.ReferenceIdeal.main_v1800) (y := Cert.ReferenceIdeal.main_v1801) (he := rfl) (hn := Cert.ReferenceIdeal.Gen.shapeCasts_S1x16x16_S16x16) (hx := ⟨by decide, rfl⟩) (hy := ⟨by decide, rfl⟩)
  rw [hk, hr, ← c_main_v582__main_v1800 hag hel]
  rfl

theorem c_main_v584__main_v1802 : StableHlo.after Cert.KernelIdeal.Hand.KOps (Cert.KernelIdeal.Hand.Wl (F := Ideal) m ρ c) (Proc.devRef .tc Cert.KernelIdeal.main_v584) = StableHlo.after (Cert.ReferenceIdeal.Hand.ops (F := Ideal)) (StableHlo.launchContents m' c) (Proc.devRef .tc Cert.ReferenceIdeal.main_v1802) := by
  have hk := StableHlo.Ascending.eq_binary Cert.KernelIdeal.Hand.KOps_asc (Cert.KernelIdeal.Hand.Wl m ρ c) (Cert.KernelIdeal.Hand.mem_KOps_st7 (Cert.KernelIdeal.Hand.mem_st_7_50 (List.getElem_mem (l := Cert.KernelIdeal.GenP.hostOps7_50 (F := Ideal)) (n := 32) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part36 (List.getElem_mem (l := Cert.ReferenceIdeal.Hand.ops_part36 (F := Ideal)) (n := 27) (by decide))) rfl rfl rfl (by decide) (by decide) (ha := ⟨by decide, rfl⟩) (hb := ⟨by decide, rfl⟩) (hy := ⟨by decide, rfl⟩)
  rw [hk, hr, ← c_main_v583__main_v1801 hag hel, ← c_main_arg9__main_arg9 hag hel]
  rfl

theorem c_main_v585__main_v1803 : StableHlo.after Cert.KernelIdeal.Hand.KOps (Cert.KernelIdeal.Hand.Wl (F := Ideal) m ρ c) (Proc.devRef .tc Cert.KernelIdeal.main_v585) = StableHlo.after (Cert.ReferenceIdeal.Hand.ops (F := Ideal)) (StableHlo.launchContents m' c) (Proc.devRef .tc Cert.ReferenceIdeal.main_v1803) := by
  have hk := StableHlo.Ascending.eq_unary Cert.KernelIdeal.Hand.KOps_asc (Cert.KernelIdeal.Hand.Wl m ρ c) (Cert.KernelIdeal.Hand.mem_KOps_st7 (Cert.KernelIdeal.Hand.mem_st_7_50 (List.getElem_mem (l := Cert.KernelIdeal.GenP.hostOps7_50 (F := Ideal)) (n := 33) (by decide)))) rfl rfl (by decide) (x := Cert.KernelIdeal.main_arg11) (y := Cert.KernelIdeal.main_v585) (f := open Cert.KernelIdeal Cert.KernelIdeal.Gen in (extractStridedSlice S1x16x16 ![2, 0, 0] · slices_S3x16x16_S1x16x16_2_0_0)) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part36 (List.getElem_mem (l := Cert.ReferenceIdeal.Hand.ops_part36 (F := Ideal)) (n := 28) (by decide))) rfl rfl (by decide) (x := Cert.ReferenceIdeal.main_arg11) (y := Cert.ReferenceIdeal.main_v1803) (f := open Cert.ReferenceIdeal Cert.ReferenceIdeal.Gen in (extractStridedSlice S1x16x16 ![2, 0, 0] · slices_S3x16x16_S1x16x16_2_0_0)) (hx := ⟨by decide, rfl⟩) (hy := ⟨by decide, rfl⟩)
  rw [hk, hr, ← c_main_arg11__main_arg11 hag hel]

theorem c_main_v586__main_v1804 : StableHlo.after Cert.KernelIdeal.Hand.KOps (Cert.KernelIdeal.Hand.Wl (F := Ideal) m ρ c) (Proc.devRef .tc Cert.KernelIdeal.main_v586) = StableHlo.after (Cert.ReferenceIdeal.Hand.ops (F := Ideal)) (StableHlo.launchContents m' c) (Proc.devRef .tc Cert.ReferenceIdeal.main_v1804) := by
  have hk := StableHlo.Ascending.eq_reshape Cert.KernelIdeal.Hand.KOps_asc (Cert.KernelIdeal.Hand.Wl m ρ c) (Cert.KernelIdeal.Hand.mem_KOps_st7 (Cert.KernelIdeal.Hand.mem_st_7_50 (List.getElem_mem (l := Cert.KernelIdeal.GenP.hostOps7_50 (F := Ideal)) (n := 34) (by decide)))) rfl rfl (by decide) (x := Cert.KernelIdeal.main_v585) (y := Cert.KernelIdeal.main_v586) (he := rfl) (hn := Cert.KernelIdeal.Gen.shapeCasts_S1x16x16_S16x16) (hx := ⟨by decide, rfl⟩) (hy := ⟨by decide, rfl⟩)
  have hr := StableHlo.Ascending.eq_reshape (Cert.ReferenceIdeal.Hand.ops_asc (F := Ideal)) (StableHlo.launchContents m' c) (Cert.ReferenceIdeal.Hand.mem_ops_part36 (List.getElem_mem (l := Cert.ReferenceIdeal.Hand.ops_part36 (F := Ideal)) (n := 29) (by decide))) rfl rfl (by decide) (x := Cert.ReferenceIdeal.main_v1803) (y := Cert.ReferenceIdeal.main_v1804) (he := rfl) (hn := Cert.ReferenceIdeal.Gen.shapeCasts_S1x16x16_S16x16) (hx := ⟨by decide, rfl⟩) (hy := ⟨by decide, rfl⟩)
  rw [hk, hr, ← c_main_v585__main_v1803 hag hel]
  rfl

theorem c_main_v587__main_v1805 : StableHlo.after Cert.KernelIdeal.Hand.KOps (Cert.KernelIdeal.Hand.Wl (F := Ideal) m ρ c) (Proc.devRef .tc Cert.KernelIdeal.main_v587) = StableHlo.after (Cert.ReferenceIdeal.Hand.ops (F := Ideal)) (StableHlo.launchContents m' c) (Proc.devRef .tc Cert.ReferenceIdeal.main_v1805) := by
  have hk := StableHlo.Ascending.eq_binary Cert.KernelIdeal.Hand.KOps_asc (Cert.KernelIdeal.Hand.Wl m ρ c) (Cert.KernelIdeal.Hand.mem_KOps_st7 (Cert.KernelIdeal.Hand.mem_st_7_50 (List.getElem_mem (l := Cert.KernelIdeal.GenP.hostOps7_50 (F := Ideal)) (n := 35) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part36 (List.getElem_mem (l := Cert.ReferenceIdeal.Hand.ops_part36 (F := Ideal)) (n := 30) (by decide))) rfl rfl rfl (by decide) (by decide) (ha := ⟨by decide, rfl⟩) (hb := ⟨by decide, rfl⟩) (hy := ⟨by decide, rfl⟩)
  rw [hk, hr, ← c_main_v581__main_v1799 hag hel, ← c_main_arg9__main_arg9 hag hel]

theorem c_main_v588__main_v1806 : StableHlo.after Cert.KernelIdeal.Hand.KOps (Cert.KernelIdeal.Hand.Wl (F := Ideal) m ρ c) (Proc.devRef .tc Cert.KernelIdeal.main_v588) = StableHlo.after (Cert.ReferenceIdeal.Hand.ops (F := Ideal)) (StableHlo.launchContents m' c) (Proc.devRef .tc Cert.ReferenceIdeal.main_v1806) := by
  have hk := StableHlo.Ascending.eq_binary Cert.KernelIdeal.Hand.KOps_asc (Cert.KernelIdeal.Hand.Wl m ρ c) (Cert.KernelIdeal.Hand.mem_KOps_st7 (Cert.KernelIdeal.Hand.mem_st_7_50 (List.getElem_mem (l := Cert.KernelIdeal.GenP.hostOps7_50 (F := Ideal)) (n := 36) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part36 (List.getElem_mem (l := Cert.ReferenceIdeal.Hand.ops_part36 (F := Ideal)) (n := 31) (by decide))) rfl rfl rfl (by decide) (by decide) (ha := ⟨by decide, rfl⟩) (hb := ⟨by decide, rfl⟩) (hy := ⟨by decide, rfl⟩)
  rw [hk, hr, ← c_main_v586__main_v1804 hag hel, ← c_main_v587__main_v1805 hag hel]
  rfl

theorem c_main_v589__main_v1807 : StableHlo.after Cert.KernelIdeal.Hand.KOps (Cert.KernelIdeal.Hand.Wl (F := Ideal) m ρ c) (Proc.devRef .tc Cert.KernelIdeal.main_v589) = StableHlo.after (Cert.ReferenceIdeal.Hand.ops (F := Ideal)) (StableHlo.launchContents m' c) (Proc.devRef .tc Cert.ReferenceIdeal.main_v1807) := by
  have hk := StableHlo.Ascending.eq_binary Cert.KernelIdeal.Hand.KOps_asc (Cert.KernelIdeal.Hand.Wl m ρ c) (Cert.KernelIdeal.Hand.mem_KOps_st7 (Cert.KernelIdeal.Hand.mem_st_7_50 (List.getElem_mem (l := Cert.KernelIdeal.GenP.hostOps7_50 (F := Ideal)) (n := 37) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part36 (List.getElem_mem (l := Cert.ReferenceIdeal.Hand.ops_part36 (F := Ideal)) (n := 32) (by decide))) rfl rfl rfl (by decide) (by decide) (ha := ⟨by decide, rfl⟩) (hb := ⟨by decide, rfl⟩) (hy := ⟨by decide, rfl⟩)
  rw [hk, hr, ← c_main_v584__main_v1802 hag hel, ← c_main_v588__main_v1806 hag hel]

theorem c_main_v590__main_v1808 : StableHlo.after Cert.KernelIdeal.Hand.KOps (Cert.KernelIdeal.Hand.Wl (F := Ideal) m ρ c) (Proc.devRef .tc Cert.KernelIdeal.main_v590) = StableHlo.after (Cert.ReferenceIdeal.Hand.ops (F := Ideal)) (StableHlo.launchContents m' c) (Proc.devRef .tc Cert.ReferenceIdeal.main_v1808) := by
  have hk := StableHlo.Ascending.eq_unary Cert.KernelIdeal.Hand.KOps_asc (Cert.KernelIdeal.Hand.Wl m ρ c) (Cert.KernelIdeal.Hand.mem_KOps_st7 (Cert.KernelIdeal.Hand.mem_st_7_50 (List.getElem_mem (l := Cert.KernelIdeal.GenP.hostOps7_50 (F := Ideal)) (n := 38) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part36 (List.getElem_mem (l := Cert.ReferenceIdeal.Hand.ops_part36 (F := Ideal)) (n := 33) (by decide))) rfl rfl (by decide) (hx := ⟨by decide, rfl⟩) (hy := ⟨by decide, rfl⟩)
  rw [hk, hr, ← c_main_v589__main_v1807 hag hel]

theorem c_main_cst_115__main_cst_383 : StableHlo.after Cert.KernelIdeal.Hand.KOps (Cert.KernelIdeal.Hand.Wl (F := Ideal) m ρ c) (Proc.devRef .tc Cert.KernelIdeal.main_cst_115) = StableHlo.after (Cert.ReferenceIdeal.Hand.ops (F := Ideal)) (StableHlo.launchContents m' c) (Proc.devRef .tc Cert.ReferenceIdeal.main_cst_383) := by
  have hk := StableHlo.Ascending.eq_nullary Cert.KernelIdeal.Hand.KOps_asc (Cert.KernelIdeal.Hand.Wl m ρ c) (Cert.KernelIdeal.Hand.mem_KOps_st7 (Cert.KernelIdeal.Hand.mem_st_7_50 (List.getElem_mem (l := Cert.KernelIdeal.GenP.hostOps7_50 (F := Ideal)) (n := 39) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part36 (List.getElem_mem (l := Cert.ReferenceIdeal.Hand.ops_part36 (F := Ideal)) (n := 34) (by decide))) rfl (hy := ⟨by decide, rfl⟩)
  rw [hk, hr]

theorem c_main_v591__main_v1809 : StableHlo.after Cert.KernelIdeal.Hand.KOps (Cert.KernelIdeal.Hand.Wl (F := Ideal) m ρ c) (Proc.devRef .tc Cert.KernelIdeal.main_v591) = StableHlo.after (Cert.ReferenceIdeal.Hand.ops (F := Ideal)) (StableHlo.launchContents m' c) (Proc.devRef .tc Cert.ReferenceIdeal.main_v1809) := by
  have hk := StableHlo.Ascending.eq_unary Cert.KernelIdeal.Hand.KOps_asc (Cert.KernelIdeal.Hand.Wl m ρ c) (Cert.KernelIdeal.Hand.mem_KOps_st7 (Cert.KernelIdeal.Hand.mem_st_7_50 (List.getElem_mem (l := Cert.KernelIdeal.GenP.hostOps7_50 (F := Ideal)) (n := 40) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part36 (List.getElem_mem (l := Cert.ReferenceIdeal.Hand.ops_part36 (F := Ideal)) (n := 35) (by decide))) rfl rfl (by decide) (hx := ⟨by decide, rfl⟩) (hy := ⟨by decide, rfl⟩)
  rw [hk, hr, ← c_main_cst_115__main_cst_383 hag hel]

theorem c_main_v592__main_v1810 : StableHlo.after Cert.KernelIdeal.Hand.KOps (Cert.KernelIdeal.Hand.Wl (F := Ideal) m ρ c) (Proc.devRef .tc Cert.KernelIdeal.main_v592) = StableHlo.after (Cert.ReferenceIdeal.Hand.ops (F := Ideal)) (StableHlo.launchContents m' c) (Proc.devRef .tc Cert.ReferenceIdeal.main_v1810) := by
  have hk := StableHlo.Ascending.eq_binary Cert.KernelIdeal.Hand.KOps_asc (Cert.KernelIdeal.Hand.Wl m ρ c) (Cert.KernelIdeal.Hand.mem_KOps_st7 (Cert.KernelIdeal.Hand.mem_st_7_50 (List.getElem_mem (l := Cert.KernelIdeal.GenP.hostOps7_50 (F := Ideal)) (n := 41) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part36 (List.getElem_mem (l := Cert.ReferenceIdeal.Hand.ops_part36 (F := Ideal)) (n := 36) (by decide))) rfl rfl rfl (by decide) (by decide) (ha := ⟨by decide, rfl⟩) (hb := ⟨by decide, rfl⟩) (hy := ⟨by decide, rfl⟩)
  rw [hk, hr, ← c_main_v591__main_v1809 hag hel, ← c_main_v568__main_v1786 hag hel]

theorem c_main_v593__main_v1811 : StableHlo.after Cert.KernelIdeal.Hand.KOps (Cert.KernelIdeal.Hand.Wl (F := Ideal) m ρ c) (Proc.devRef .tc Cert.KernelIdeal.main_v593) = StableHlo.after (Cert.ReferenceIdeal.Hand.ops (F := Ideal)) (StableHlo.launchContents m' c) (Proc.devRef .tc Cert.ReferenceIdeal.main_v1811) := by
  have hk := StableHlo.Ascending.eq_binary Cert.KernelIdeal.Hand.KOps_asc (Cert.KernelIdeal.Hand.Wl m ρ c) (Cert.KernelIdeal.Hand.mem_KOps_st7 (Cert.KernelIdeal.Hand.mem_st_7_50 (List.getElem_mem (l := Cert.KernelIdeal.GenP.hostOps7_50 (F := Ideal)) (n := 42) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part36 (List.getElem_mem (l := Cert.ReferenceIdeal.Hand.ops_part36 (F := Ideal)) (n := 37) (by decide))) rfl rfl rfl (by decide) (by decide) (ha := ⟨by decide, rfl⟩) (hb := ⟨by decide, rfl⟩) (hy := ⟨by decide, rfl⟩)
  rw [hk, hr, ← c_main_v592__main_v1810 hag hel, ← c_main_arg9__main_arg9 hag hel]

theorem c_main_v594__main_v1812 : StableHlo.after Cert.KernelIdeal.Hand.KOps (Cert.KernelIdeal.Hand.Wl (F := Ideal) m ρ c) (Proc.devRef .tc Cert.KernelIdeal.main_v594) = StableHlo.after (Cert.ReferenceIdeal.Hand.ops (F := Ideal)) (StableHlo.launchContents m' c) (Proc.devRef .tc Cert.ReferenceIdeal.main_v1812) := by
  have hk := StableHlo.Ascending.eq_binary Cert.KernelIdeal.Hand.KOps_asc (Cert.KernelIdeal.Hand.Wl m ρ c) (Cert.KernelIdeal.Hand.mem_KOps_st7 (Cert.KernelIdeal.Hand.mem_st_7_50 (List.getElem_mem (l := Cert.KernelIdeal.GenP.hostOps7_50 (F := Ideal)) (n := 43) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part36 (List.getElem_mem (l := Cert.ReferenceIdeal.Hand.ops_part36 (F := Ideal)) (n := 38) (by decide))) rfl rfl rfl (by decide) (by decide) (ha := ⟨by decide, rfl⟩) (hb := ⟨by decide, rfl⟩) (hy := ⟨by decide, rfl⟩)
  rw [hk, hr, ← c_main_v568__main_v1786 hag hel, ← c_main_v590__main_v1808 hag hel]

theorem c_main_v595__main_v1813 : StableHlo.after Cert.KernelIdeal.Hand.KOps (Cert.KernelIdeal.Hand.Wl (F := Ideal) m ρ c) (Proc.devRef .tc Cert.KernelIdeal.main_v595) = StableHlo.after (Cert.ReferenceIdeal.Hand.ops (F := Ideal)) (StableHlo.launchContents m' c) (Proc.devRef .tc Cert.ReferenceIdeal.main_v1813) := by
  have hk := StableHlo.Ascending.eq_binary Cert.KernelIdeal.Hand.KOps_asc (Cert.KernelIdeal.Hand.Wl m ρ c) (Cert.KernelIdeal.Hand.mem_KOps_st7 (Cert.KernelIdeal.Hand.mem_st_7_50 (List.getElem_mem (l := Cert.KernelIdeal.GenP.hostOps7_50 (F := Ideal)) (n := 44) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part36 (List.getElem_mem (l := Cert.ReferenceIdeal.Hand.ops_part36 (F := Ideal)) (n := 39) (by decide))) rfl rfl rfl (by decide) (by decide) (ha := ⟨by decide, rfl⟩) (hb := ⟨by decide, rfl⟩) (hy := ⟨by decide, rfl⟩)
  rw [hk, hr, ← c_main_v593__main_v1811 hag hel, ← c_main_v594__main_v1812 hag hel]

theorem c_main_v596__main_v1937 : StableHlo.after Cert.KernelIdeal.Hand.KOps (Cert.KernelIdeal.Hand.Wl (F := Ideal) m ρ c) (Proc.devRef .tc Cert.KernelIdeal.main_v596) = StableHlo.after (Cert.ReferenceIdeal.Hand.ops (F := Ideal)) (StableHlo.launchContents m' c) (Proc.devRef .tc Cert.ReferenceIdeal.main_v1937) := by
  have hk := StableHlo.Ascending.eq_unary Cert.KernelIdeal.Hand.KOps_asc (Cert.KernelIdeal.Hand.Wl m ρ c) (Cert.KernelIdeal.Hand.mem_KOps_st7 (Cert.KernelIdeal.Hand.mem_st_7_50 (List.getElem_mem (l := Cert.KernelIdeal.GenP.hostOps7_50 (F := Ideal)) (n := 45) (by decide)))) rfl rfl (by decide) (x := Cert.KernelIdeal.main_arg10) (y := Cert.KernelIdeal.main_v596) (f := open Cert.KernelIdeal Cert.KernelIdeal.Gen in (extractStridedSlice S1x16x16 ![0, 0, 0] · slices_S3x16x16_S1x16x16_0_0_0)) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part39 (List.getElem_mem (l := Cert.ReferenceIdeal.Hand.ops_part39 (F := Ideal)) (n := 25) (by decide))) rfl rfl (by decide) (x := Cert.ReferenceIdeal.main_arg10) (y := Cert.ReferenceIdeal.main_v1937) (f := open Cert.ReferenceIdeal Cert.ReferenceIdeal.Gen in (extractStridedSlice S1x16x16 ![0, 0, 0] · slices_S3x16x16_S1x16x16_0_0_0)) (hx := ⟨by decide, rfl⟩) (hy := ⟨by decide, rfl⟩)
  rw [hk, hr, ← c_main_arg10__main_arg10 hag hel]

theorem c_main_v597__main_v1938 : StableHlo.after Cert.KernelIdeal.Hand.KOps (Cert.KernelIdeal.Hand.Wl (F := Ideal) m ρ c) (Proc.devRef .tc Cert.KernelIdeal.main_v597) = StableHlo.after (Cert.ReferenceIdeal.Hand.ops (F := Ideal)) (StableHlo.launchContents m' c) (Proc.devRef .tc Cert.ReferenceIdeal.main_v1938) := by
  have hk := StableHlo.Ascending.eq_reshape Cert.KernelIdeal.Hand.KOps_asc (Cert.KernelIdeal.Hand.Wl m ρ c) (Cert.KernelIdeal.Hand.mem_KOps_st7 (Cert.KernelIdeal.Hand.mem_st_7_50 (List.getElem_mem (l := Cert.KernelIdeal.GenP.hostOps7_50 (F := Ideal)) (n := 46) (by decide)))) rfl rfl (by decide) (x := Cert.KernelIdeal.main_v596) (y := Cert.KernelIdeal.main_v597) (he := rfl) (hn := Cert.KernelIdeal.Gen.shapeCasts_S1x16x16_S16x16) (hx := ⟨by decide, rfl⟩) (hy := ⟨by decide, rfl⟩)
  have hr := StableHlo.Ascending.eq_reshape (Cert.ReferenceIdeal.Hand.ops_asc (F := Ideal)) (StableHlo.launchContents m' c) (Cert.ReferenceIdeal.Hand.mem_ops_part39 (List.getElem_mem (l := Cert.ReferenceIdeal.Hand.ops_part39 (F := Ideal)) (n := 26) (by decide))) rfl rfl (by decide) (x := Cert.ReferenceIdeal.main_v1937) (y := Cert.ReferenceIdeal.main_v1938) (he := rfl) (hn := Cert.ReferenceIdeal.Gen.shapeCasts_S1x16x16_S16x16) (hx := ⟨by decide, rfl⟩) (hy := ⟨by decide, rfl⟩)
  rw [hk, hr, ← c_main_v596__main_v1937 hag hel]
  rfl

theorem c_main_v598__main_v1939 : StableHlo.after Cert.KernelIdeal.Hand.KOps (Cert.KernelIdeal.Hand.Wl (F := Ideal) m ρ c) (Proc.devRef .tc Cert.KernelIdeal.main_v598) = StableHlo.after (Cert.ReferenceIdeal.Hand.ops (F := Ideal)) (StableHlo.launchContents m' c) (Proc.devRef .tc Cert.ReferenceIdeal.main_v1939) := by
  have hk := StableHlo.Ascending.eq_binary Cert.KernelIdeal.Hand.KOps_asc (Cert.KernelIdeal.Hand.Wl m ρ c) (Cert.KernelIdeal.Hand.mem_KOps_st7 (Cert.KernelIdeal.Hand.mem_st_7_50 (List.getElem_mem (l := Cert.KernelIdeal.GenP.hostOps7_50 (F := Ideal)) (n := 47) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part39 (List.getElem_mem (l := Cert.ReferenceIdeal.Hand.ops_part39 (F := Ideal)) (n := 27) (by decide))) rfl rfl rfl (by decide) (by decide) (ha := ⟨by decide, rfl⟩) (hb := ⟨by decide, rfl⟩) (hy := ⟨by decide, rfl⟩)
  rw [hk, hr, ← c_main_v597__main_v1938 hag hel, ← c_main_v595__main_v1813 hag hel]
  rfl

theorem c_main_v599__main_v1940 : StableHlo.after Cert.KernelIdeal.Hand.KOps (Cert.KernelIdeal.Hand.Wl (F := Ideal) m ρ c) (Proc.devRef .tc Cert.KernelIdeal.main_v599) = StableHlo.after (Cert.ReferenceIdeal.Hand.ops (F := Ideal)) (StableHlo.launchContents m' c) (Proc.devRef .tc Cert.ReferenceIdeal.main_v1940) := by
  have hk := StableHlo.Ascending.eq_unary Cert.KernelIdeal.Hand.KOps_asc (Cert.KernelIdeal.Hand.Wl m ρ c) (Cert.KernelIdeal.Hand.mem_KOps_st7 (Cert.KernelIdeal.Hand.mem_st_7_50 (List.getElem_mem (l := Cert.KernelIdeal.GenP.hostOps7_50 (F := Ideal)) (n := 48) (by decide)))) rfl rfl (by decide) (x := Cert.KernelIdeal.main_arg11) (y := Cert.KernelIdeal.main_v599) (f := open Cert.KernelIdeal Cert.KernelIdeal.Gen in (extractStridedSlice S1x16x16 ![0, 0, 0] · slices_S3x16x16_S1x16x16_0_0_0)) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part39 (List.getElem_mem (l := Cert.ReferenceIdeal.Hand.ops_part39 (F := Ideal)) (n := 28) (by decide))) rfl rfl (by decide) (x := Cert.ReferenceIdeal.main_arg11) (y := Cert.ReferenceIdeal.main_v1940) (f := open Cert.ReferenceIdeal Cert.ReferenceIdeal.Gen in (extractStridedSlice S1x16x16 ![0, 0, 0] · slices_S3x16x16_S1x16x16_0_0_0)) (hx := ⟨by decide, rfl⟩) (hy := ⟨by decide, rfl⟩)
  rw [hk, hr, ← c_main_arg11__main_arg11 hag hel]

theorem c_main_v600__main_v1941 : StableHlo.after Cert.KernelIdeal.Hand.KOps (Cert.KernelIdeal.Hand.Wl (F := Ideal) m ρ c) (Proc.devRef .tc Cert.KernelIdeal.main_v600) = StableHlo.after (Cert.ReferenceIdeal.Hand.ops (F := Ideal)) (StableHlo.launchContents m' c) (Proc.devRef .tc Cert.ReferenceIdeal.main_v1941) := by
  have hk := StableHlo.Ascending.eq_reshape Cert.KernelIdeal.Hand.KOps_asc (Cert.KernelIdeal.Hand.Wl m ρ c) (Cert.KernelIdeal.Hand.mem_KOps_st7 (Cert.KernelIdeal.Hand.mem_st_7_50 (List.getElem_mem (l := Cert.KernelIdeal.GenP.hostOps7_50 (F := Ideal)) (n := 49) (by decide)))) rfl rfl (by decide) (x := Cert.KernelIdeal.main_v599) (y := Cert.KernelIdeal.main_v600) (he := rfl) (hn := Cert.KernelIdeal.Gen.shapeCasts_S1x16x16_S16x16) (hx := ⟨by decide, rfl⟩) (hy := ⟨by decide, rfl⟩)
  have hr := StableHlo.Ascending.eq_reshape (Cert.ReferenceIdeal.Hand.ops_asc (F := Ideal)) (StableHlo.launchContents m' c) (Cert.ReferenceIdeal.Hand.mem_ops_part39 (List.getElem_mem (l := Cert.ReferenceIdeal.Hand.ops_part39 (F := Ideal)) (n := 29) (by decide))) rfl rfl (by decide) (x := Cert.ReferenceIdeal.main_v1940) (y := Cert.ReferenceIdeal.main_v1941) (he := rfl) (hn := Cert.ReferenceIdeal.Gen.shapeCasts_S1x16x16_S16x16) (hx := ⟨by decide, rfl⟩) (hy := ⟨by decide, rfl⟩)
  rw [hk, hr, ← c_main_v599__main_v1940 hag hel]
  rfl

theorem c_main_v601__main_v1942 : StableHlo.after Cert.KernelIdeal.Hand.KOps (Cert.KernelIdeal.Hand.Wl (F := Ideal) m ρ c) (Proc.devRef .tc Cert.KernelIdeal.main_v601) = StableHlo.after (Cert.ReferenceIdeal.Hand.ops (F := Ideal)) (StableHlo.launchContents m' c) (Proc.devRef .tc Cert.ReferenceIdeal.main_v1942) := by
  have hk := StableHlo.Ascending.eq_binary Cert.KernelIdeal.Hand.KOps_asc (Cert.KernelIdeal.Hand.Wl m ρ c) (Cert.KernelIdeal.Hand.mem_KOps_st7 (Cert.KernelIdeal.Hand.mem_st_7_50 (List.getElem_mem (l := Cert.KernelIdeal.GenP.hostOps7_50 (F := Ideal)) (n := 50) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part39 (List.getElem_mem (l := Cert.ReferenceIdeal.Hand.ops_part39 (F := Ideal)) (n := 30) (by decide))) rfl rfl rfl (by decide) (by decide) (ha := ⟨by decide, rfl⟩) (hb := ⟨by decide, rfl⟩) (hy := ⟨by decide, rfl⟩)
  rw [hk, hr, ← c_main_v600__main_v1941 hag hel, ← c_main_v595__main_v1813 hag hel]
  rfl

theorem c_main_v602__main_v1943 : StableHlo.after Cert.KernelIdeal.Hand.KOps (Cert.KernelIdeal.Hand.Wl (F := Ideal) m ρ c) (Proc.devRef .tc Cert.KernelIdeal.main_v602) = StableHlo.after (Cert.ReferenceIdeal.Hand.ops (F := Ideal)) (StableHlo.launchContents m' c) (Proc.devRef .tc Cert.ReferenceIdeal.main_v1943) := by
  have hk := StableHlo.Ascending.eq_binary Cert.KernelIdeal.Hand.KOps_asc (Cert.KernelIdeal.Hand.Wl m ρ c) (Cert.KernelIdeal.Hand.mem_KOps_st7 (Cert.KernelIdeal.Hand.mem_st_7_50 (List.getElem_mem (l := Cert.KernelIdeal.GenP.hostOps7_50 (F := Ideal)) (n := 51) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part39 (List.getElem_mem (l := Cert.ReferenceIdeal.Hand.ops_part39 (F := Ideal)) (n := 31) (by decide))) rfl rfl rfl (by decide) (by decide) (ha := ⟨by decide, rfl⟩) (hb := ⟨by decide, rfl⟩) (hy := ⟨by decide, rfl⟩)
  rw [hk, hr, ← c_main_v598__main_v1939 hag hel, ← c_main_v601__main_v1942 hag hel]

theorem c_main_v603__main_v1944 : StableHlo.after Cert.KernelIdeal.Hand.KOps (Cert.KernelIdeal.Hand.Wl (F := Ideal) m ρ c) (Proc.devRef .tc Cert.KernelIdeal.main_v603) = StableHlo.after (Cert.ReferenceIdeal.Hand.ops (F := Ideal)) (StableHlo.launchContents m' c) (Proc.devRef .tc Cert.ReferenceIdeal.main_v1944) := by
  have hk := StableHlo.Ascending.eq_unary Cert.KernelIdeal.Hand.KOps_asc (Cert.KernelIdeal.Hand.Wl m ρ c) (Cert.KernelIdeal.Hand.mem_KOps_st7 (Cert.KernelIdeal.Hand.mem_st_7_50 (List.getElem_mem (l := Cert.KernelIdeal.GenP.hostOps7_50 (F := Ideal)) (n := 52) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part39 (List.getElem_mem (l := Cert.ReferenceIdeal.Hand.ops_part39 (F := Ideal)) (n := 32) (by decide))) rfl rfl (by decide) (hx := ⟨by decide, rfl⟩) (hy := ⟨by decide, rfl⟩)
  rw [hk, hr, ← c_main_v602__main_v1943 hag hel]

theorem c_main_v604__main_v1945 : StableHlo.after Cert.KernelIdeal.Hand.KOps (Cert.KernelIdeal.Hand.Wl (F := Ideal) m ρ c) (Proc.devRef .tc Cert.KernelIdeal.main_v604) = StableHlo.after (Cert.ReferenceIdeal.Hand.ops (F := Ideal)) (StableHlo.launchContents m' c) (Proc.devRef .tc Cert.ReferenceIdeal.main_v1945) := by
  have hk := StableHlo.Ascending.eq_unary Cert.KernelIdeal.Hand.KOps_asc (Cert.KernelIdeal.Hand.Wl m ρ c) (Cert.KernelIdeal.Hand.mem_KOps_st7 (Cert.KernelIdeal.Hand.mem_st_7_50 (List.getElem_mem (l := Cert.KernelIdeal.GenP.hostOps7_50 (F := Ideal)) (n := 53) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part39 (List.getElem_mem (l := Cert.ReferenceIdeal.Hand.ops_part39 (F := Ideal)) (n := 33) (by decide))) rfl rfl (by decide) (hx := ⟨by decide, rfl⟩) (hy := ⟨by decide, rfl⟩)
  rw [hk, hr, ← c_main_v603__main_v1944 hag hel]

theorem c_main_cst_116__main_cst_412 : StableHlo.after Cert.KernelIdeal.Hand.KOps (Cert.KernelIdeal.Hand.Wl (F := Ideal) m ρ c) (Proc.devRef .tc Cert.KernelIdeal.main_cst_116) = StableHlo.after (Cert.ReferenceIdeal.Hand.ops (F := Ideal)) (StableHlo.launchContents m' c) (Proc.devRef .tc Cert.ReferenceIdeal.main_cst_412) := by
  have hk := StableHlo.Ascending.eq_nullary Cert.KernelIdeal.Hand.KOps_asc (Cert.KernelIdeal.Hand.Wl m ρ c) (Cert.KernelIdeal.Hand.mem_KOps_st7 (Cert.KernelIdeal.Hand.mem_st_7_50 (List.getElem_mem (l := Cert.KernelIdeal.GenP.hostOps7_50 (F := Ideal)) (n := 54) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part39 (List.getElem_mem (l := Cert.ReferenceIdeal.Hand.ops_part39 (F := Ideal)) (n := 34) (by decide))) rfl (hy := ⟨by decide, rfl⟩)
  rw [hk, hr]

theorem c_main_v605__main_v1946 : StableHlo.after Cert.KernelIdeal.Hand.KOps (Cert.KernelIdeal.Hand.Wl (F := Ideal) m ρ c) (Proc.devRef .tc Cert.KernelIdeal.main_v605) = StableHlo.after (Cert.ReferenceIdeal.Hand.ops (F := Ideal)) (StableHlo.launchContents m' c) (Proc.devRef .tc Cert.ReferenceIdeal.main_v1946) := by
  have hk := StableHlo.Ascending.eq_unary Cert.KernelIdeal.Hand.KOps_asc (Cert.KernelIdeal.Hand.Wl m ρ c) (Cert.KernelIdeal.Hand.mem_KOps_st7 (Cert.KernelIdeal.Hand.mem_st_7_50 (List.getElem_mem (l := Cert.KernelIdeal.GenP.hostOps7_50 (F := Ideal)) (n := 55) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part39 (List.getElem_mem (l := Cert.ReferenceIdeal.Hand.ops_part39 (F := Ideal)) (n := 35) (by decide))) rfl rfl (by decide) (hx := ⟨by decide, rfl⟩) (hy := ⟨by decide, rfl⟩)
  rw [hk, hr, ← c_main_cst_116__main_cst_412 hag hel]

theorem c_main_v606__main_v1947 : StableHlo.after Cert.KernelIdeal.Hand.KOps (Cert.KernelIdeal.Hand.Wl (F := Ideal) m ρ c) (Proc.devRef .tc Cert.KernelIdeal.main_v606) = StableHlo.after (Cert.ReferenceIdeal.Hand.ops (F := Ideal)) (StableHlo.launchContents m' c) (Proc.devRef .tc Cert.ReferenceIdeal.main_v1947) := by
  have hk := StableHlo.Ascending.eq_binary Cert.KernelIdeal.Hand.KOps_asc (Cert.KernelIdeal.Hand.Wl m ρ c) (Cert.KernelIdeal.Hand.mem_KOps_st7 (Cert.KernelIdeal.Hand.mem_st_7_50 (List.getElem_mem (l := Cert.KernelIdeal.GenP.hostOps7_50 (F := Ideal)) (n := 56) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part39 (List.getElem_mem (l := Cert.ReferenceIdeal.Hand.ops_part39 (F := Ideal)) (n := 36) (by decide))) rfl rfl rfl (by decide) (by decide) (ha := ⟨by decide, rfl⟩) (hb := ⟨by decide, rfl⟩) (hy := ⟨by decide, rfl⟩)
  rw [hk, hr, ← c_main_v605__main_v1946 hag hel, ← c_main_v604__main_v1945 hag hel]

theorem c_main_cst_117__main_cst_413 : StableHlo.after Cert.KernelIdeal.Hand.KOps (Cert.KernelIdeal.Hand.Wl (F := Ideal) m ρ c) (Proc.devRef .tc Cert.KernelIdeal.main_cst_117) = StableHlo.after (Cert.ReferenceIdeal.Hand.ops (F := Ideal)) (StableHlo.launchContents m' c) (Proc.devRef .tc Cert.ReferenceIdeal.main_cst_413) := by
  have hk := StableHlo.Ascending.eq_nullary Cert.KernelIdeal.Hand.KOps_asc (Cert.KernelIdeal.Hand.Wl m ρ c) (Cert.KernelIdeal.Hand.mem_KOps_st7 (Cert.KernelIdeal.Hand.mem_st_7_50 (List.getElem_mem (l := Cert.KernelIdeal.GenP.hostOps7_50 (F := Ideal)) (n := 57) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part39 (List.getElem_mem (l := Cert.ReferenceIdeal.Hand.ops_part39 (F := Ideal)) (n := 37) (by decide))) rfl (hy := ⟨by decide, rfl⟩)
  rw [hk, hr]

theorem c_main_v607__main_v1948 : StableHlo.after Cert.KernelIdeal.Hand.KOps (Cert.KernelIdeal.Hand.Wl (F := Ideal) m ρ c) (Proc.devRef .tc Cert.KernelIdeal.main_v607) = StableHlo.after (Cert.ReferenceIdeal.Hand.ops (F := Ideal)) (StableHlo.launchContents m' c) (Proc.devRef .tc Cert.ReferenceIdeal.main_v1948) := by
  have hk := StableHlo.Ascending.eq_unary Cert.KernelIdeal.Hand.KOps_asc (Cert.KernelIdeal.Hand.Wl m ρ c) (Cert.KernelIdeal.Hand.mem_KOps_st7 (Cert.KernelIdeal.Hand.mem_st_7_50 (List.getElem_mem (l := Cert.KernelIdeal.GenP.hostOps7_50 (F := Ideal)) (n := 58) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part39 (List.getElem_mem (l := Cert.ReferenceIdeal.Hand.ops_part39 (F := Ideal)) (n := 38) (by decide))) rfl rfl (by decide) (hx := ⟨by decide, rfl⟩) (hy := ⟨by decide, rfl⟩)
  rw [hk, hr, ← c_main_cst_117__main_cst_413 hag hel]

theorem c_main_v608__main_v1949 : StableHlo.after Cert.KernelIdeal.Hand.KOps (Cert.KernelIdeal.Hand.Wl (F := Ideal) m ρ c) (Proc.devRef .tc Cert.KernelIdeal.main_v608) = StableHlo.after (Cert.ReferenceIdeal.Hand.ops (F := Ideal)) (StableHlo.launchContents m' c) (Proc.devRef .tc Cert.ReferenceIdeal.main_v1949) := by
  have hk := StableHlo.Ascending.eq_binary Cert.KernelIdeal.Hand.KOps_asc (Cert.KernelIdeal.Hand.Wl m ρ c) (Cert.KernelIdeal.Hand.mem_KOps_st7 (Cert.KernelIdeal.Hand.mem_st_7_50 (List.getElem_mem (l := Cert.KernelIdeal.GenP.hostOps7_50 (F := Ideal)) (n := 59) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part39 (List.getElem_mem (l := Cert.ReferenceIdeal.Hand.ops_part39 (F := Ideal)) (n := 39) (by decide))) rfl rfl rfl (by decide) (by decide) (ha := ⟨by decide, rfl⟩) (hb := ⟨by decide, rfl⟩) (hy := ⟨by decide, rfl⟩)
  rw [hk, hr, ← c_main_v607__main_v1948 hag hel, ← c_main_v606__main_v1947 hag hel]

theorem c_main_v609__main_v1950 : StableHlo.after Cert.KernelIdeal.Hand.KOps (Cert.KernelIdeal.Hand.Wl (F := Ideal) m ρ c) (Proc.devRef .tc Cert.KernelIdeal.main_v609) = StableHlo.after (Cert.ReferenceIdeal.Hand.ops (F := Ideal)) (StableHlo.launchContents m' c) (Proc.devRef .tc Cert.ReferenceIdeal.main_v1950) := by
  have hk := StableHlo.Ascending.eq_unary Cert.KernelIdeal.Hand.KOps_asc (Cert.KernelIdeal.Hand.Wl m ρ c) (Cert.KernelIdeal.Hand.mem_KOps_st7 (Cert.KernelIdeal.Hand.mem_st_7_50 (List.getElem_mem (l := Cert.KernelIdeal.GenP.hostOps7_50 (F := Ideal)) (n := 60) (by decide)))) rfl rfl (by decide) (x := Cert.KernelIdeal.main_arg10) (y := Cert.KernelIdeal.main_v609) (f := open Cert.KernelIdeal Cert.KernelIdeal.Gen in (extractStridedSlice S1x16x16 ![1, 0, 0] · slices_S3x16x16_S1x16x16_1_0_0)) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part39 (List.getElem_mem (l := Cert.ReferenceIdeal.Hand.ops_part39 (F := Ideal)) (n := 40) (by decide))) rfl rfl (by decide) (x := Cert.ReferenceIdeal.main_arg10) (y := Cert.ReferenceIdeal.main_v1950) (f := open Cert.ReferenceIdeal Cert.ReferenceIdeal.Gen in (extractStridedSlice S1x16x16 ![1, 0, 0] · slices_S3x16x16_S1x16x16_1_0_0)) (hx := ⟨by decide, rfl⟩) (hy := ⟨by decide, rfl⟩)
  rw [hk, hr, ← c_main_arg10__main_arg10 hag hel]

theorem c_main_v610__main_v1951 : StableHlo.after Cert.KernelIdeal.Hand.KOps (Cert.KernelIdeal.Hand.Wl (F := Ideal) m ρ c) (Proc.devRef .tc Cert.KernelIdeal.main_v610) = StableHlo.after (Cert.ReferenceIdeal.Hand.ops (F := Ideal)) (StableHlo.launchContents m' c) (Proc.devRef .tc Cert.ReferenceIdeal.main_v1951) := by
  have hk := StableHlo.Ascending.eq_reshape Cert.KernelIdeal.Hand.KOps_asc (Cert.KernelIdeal.Hand.Wl m ρ c) (Cert.KernelIdeal.Hand.mem_KOps_st7 (Cert.KernelIdeal.Hand.mem_st_7_50 (List.getElem_mem (l := Cert.KernelIdeal.GenP.hostOps7_50 (F := Ideal)) (n := 61) (by decide)))) rfl rfl (by decide) (x := Cert.KernelIdeal.main_v609) (y := Cert.KernelIdeal.main_v610) (he := rfl) (hn := Cert.KernelIdeal.Gen.shapeCasts_S1x16x16_S16x16) (hx := ⟨by decide, rfl⟩) (hy := ⟨by decide, rfl⟩)
  have hr := StableHlo.Ascending.eq_reshape (Cert.ReferenceIdeal.Hand.ops_asc (F := Ideal)) (StableHlo.launchContents m' c) (Cert.ReferenceIdeal.Hand.mem_ops_part39 (List.getElem_mem (l := Cert.ReferenceIdeal.Hand.ops_part39 (F := Ideal)) (n := 41) (by decide))) rfl rfl (by decide) (x := Cert.ReferenceIdeal.main_v1950) (y := Cert.ReferenceIdeal.main_v1951) (he := rfl) (hn := Cert.ReferenceIdeal.Gen.shapeCasts_S1x16x16_S16x16) (hx := ⟨by decide, rfl⟩) (hy := ⟨by decide, rfl⟩)
  rw [hk, hr, ← c_main_v609__main_v1950 hag hel]
  rfl

theorem c_main_v611__main_v1952 : StableHlo.after Cert.KernelIdeal.Hand.KOps (Cert.KernelIdeal.Hand.Wl (F := Ideal) m ρ c) (Proc.devRef .tc Cert.KernelIdeal.main_v611) = StableHlo.after (Cert.ReferenceIdeal.Hand.ops (F := Ideal)) (StableHlo.launchContents m' c) (Proc.devRef .tc Cert.ReferenceIdeal.main_v1952) := by
  have hk := StableHlo.Ascending.eq_binary Cert.KernelIdeal.Hand.KOps_asc (Cert.KernelIdeal.Hand.Wl m ρ c) (Cert.KernelIdeal.Hand.mem_KOps_st7 (Cert.KernelIdeal.Hand.mem_st_7_50 (List.getElem_mem (l := Cert.KernelIdeal.GenP.hostOps7_50 (F := Ideal)) (n := 62) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part39 (List.getElem_mem (l := Cert.ReferenceIdeal.Hand.ops_part39 (F := Ideal)) (n := 42) (by decide))) rfl rfl rfl (by decide) (by decide) (ha := ⟨by decide, rfl⟩) (hb := ⟨by decide, rfl⟩) (hy := ⟨by decide, rfl⟩)
  rw [hk, hr, ← c_main_v610__main_v1951 hag hel, ← c_main_v595__main_v1813 hag hel]
  rfl

theorem c_main_v612__main_v1953 : StableHlo.after Cert.KernelIdeal.Hand.KOps (Cert.KernelIdeal.Hand.Wl (F := Ideal) m ρ c) (Proc.devRef .tc Cert.KernelIdeal.main_v612) = StableHlo.after (Cert.ReferenceIdeal.Hand.ops (F := Ideal)) (StableHlo.launchContents m' c) (Proc.devRef .tc Cert.ReferenceIdeal.main_v1953) := by
  have hk := StableHlo.Ascending.eq_unary Cert.KernelIdeal.Hand.KOps_asc (Cert.KernelIdeal.Hand.Wl m ρ c) (Cert.KernelIdeal.Hand.mem_KOps_st7 (Cert.KernelIdeal.Hand.mem_st_7_50 (List.getElem_mem (l := Cert.KernelIdeal.GenP.hostOps7_50 (F := Ideal)) (n := 63) (by decide)))) rfl rfl (by decide) (x := Cert.KernelIdeal.main_arg11) (y := Cert.KernelIdeal.main_v612) (f := open Cert.KernelIdeal Cert.KernelIdeal.Gen in (extractStridedSlice S1x16x16 ![1, 0, 0] · slices_S3x16x16_S1x16x16_1_0_0)) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part39 (List.getElem_mem (l := Cert.ReferenceIdeal.Hand.ops_part39 (F := Ideal)) (n := 43) (by decide))) rfl rfl (by decide) (x := Cert.ReferenceIdeal.main_arg11) (y := Cert.ReferenceIdeal.main_v1953) (f := open Cert.ReferenceIdeal Cert.ReferenceIdeal.Gen in (extractStridedSlice S1x16x16 ![1, 0, 0] · slices_S3x16x16_S1x16x16_1_0_0)) (hx := ⟨by decide, rfl⟩) (hy := ⟨by decide, rfl⟩)
  rw [hk, hr, ← c_main_arg11__main_arg11 hag hel]

theorem c_main_v613__main_v1954 : StableHlo.after Cert.KernelIdeal.Hand.KOps (Cert.KernelIdeal.Hand.Wl (F := Ideal) m ρ c) (Proc.devRef .tc Cert.KernelIdeal.main_v613) = StableHlo.after (Cert.ReferenceIdeal.Hand.ops (F := Ideal)) (StableHlo.launchContents m' c) (Proc.devRef .tc Cert.ReferenceIdeal.main_v1954) := by
  have hk := StableHlo.Ascending.eq_reshape Cert.KernelIdeal.Hand.KOps_asc (Cert.KernelIdeal.Hand.Wl m ρ c) (Cert.KernelIdeal.Hand.mem_KOps_st7 (Cert.KernelIdeal.Hand.mem_st_7_50 (List.getElem_mem (l := Cert.KernelIdeal.GenP.hostOps7_50 (F := Ideal)) (n := 64) (by decide)))) rfl rfl (by decide) (x := Cert.KernelIdeal.main_v612) (y := Cert.KernelIdeal.main_v613) (he := rfl) (hn := Cert.KernelIdeal.Gen.shapeCasts_S1x16x16_S16x16) (hx := ⟨by decide, rfl⟩) (hy := ⟨by decide, rfl⟩)
  have hr := StableHlo.Ascending.eq_reshape (Cert.ReferenceIdeal.Hand.ops_asc (F := Ideal)) (StableHlo.launchContents m' c) (Cert.ReferenceIdeal.Hand.mem_ops_part39 (List.getElem_mem (l := Cert.ReferenceIdeal.Hand.ops_part39 (F := Ideal)) (n := 44) (by decide))) rfl rfl (by decide) (x := Cert.ReferenceIdeal.main_v1953) (y := Cert.ReferenceIdeal.main_v1954) (he := rfl) (hn := Cert.ReferenceIdeal.Gen.shapeCasts_S1x16x16_S16x16) (hx := ⟨by decide, rfl⟩) (hy := ⟨by decide, rfl⟩)
  rw [hk, hr, ← c_main_v612__main_v1953 hag hel]
  rfl

theorem c_main_v614__main_v1955 : StableHlo.after Cert.KernelIdeal.Hand.KOps (Cert.KernelIdeal.Hand.Wl (F := Ideal) m ρ c) (Proc.devRef .tc Cert.KernelIdeal.main_v614) = StableHlo.after (Cert.ReferenceIdeal.Hand.ops (F := Ideal)) (StableHlo.launchContents m' c) (Proc.devRef .tc Cert.ReferenceIdeal.main_v1955) := by
  have hk := StableHlo.Ascending.eq_binary Cert.KernelIdeal.Hand.KOps_asc (Cert.KernelIdeal.Hand.Wl m ρ c) (Cert.KernelIdeal.Hand.mem_KOps_st7 (Cert.KernelIdeal.Hand.mem_st_7_50 (List.getElem_mem (l := Cert.KernelIdeal.GenP.hostOps7_50 (F := Ideal)) (n := 65) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part39 (List.getElem_mem (l := Cert.ReferenceIdeal.Hand.ops_part39 (F := Ideal)) (n := 45) (by decide))) rfl rfl rfl (by decide) (by decide) (ha := ⟨by decide, rfl⟩) (hb := ⟨by decide, rfl⟩) (hy := ⟨by decide, rfl⟩)
  rw [hk, hr, ← c_main_v613__main_v1954 hag hel, ← c_main_v595__main_v1813 hag hel]
  rfl

theorem c_main_v615__main_v1956 : StableHlo.after Cert.KernelIdeal.Hand.KOps (Cert.KernelIdeal.Hand.Wl (F := Ideal) m ρ c) (Proc.devRef .tc Cert.KernelIdeal.main_v615) = StableHlo.after (Cert.ReferenceIdeal.Hand.ops (F := Ideal)) (StableHlo.launchContents m' c) (Proc.devRef .tc Cert.ReferenceIdeal.main_v1956) := by
  have hk := StableHlo.Ascending.eq_binary Cert.KernelIdeal.Hand.KOps_asc (Cert.KernelIdeal.Hand.Wl m ρ c) (Cert.KernelIdeal.Hand.mem_KOps_st7 (Cert.KernelIdeal.Hand.mem_st_7_50 (List.getElem_mem (l := Cert.KernelIdeal.GenP.hostOps7_50 (F := Ideal)) (n := 66) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part39 (List.getElem_mem (l := Cert.ReferenceIdeal.Hand.ops_part39 (F := Ideal)) (n := 46) (by decide))) rfl rfl rfl (by decide) (by decide) (ha := ⟨by decide, rfl⟩) (hb := ⟨by decide, rfl⟩) (hy := ⟨by decide, rfl⟩)
  rw [hk, hr, ← c_main_v611__main_v1952 hag hel, ← c_main_v614__main_v1955 hag hel]

theorem c_main_v616__main_v1957 : StableHlo.after Cert.KernelIdeal.Hand.KOps (Cert.KernelIdeal.Hand.Wl (F := Ideal) m ρ c) (Proc.devRef .tc Cert.KernelIdeal.main_v616) = StableHlo.after (Cert.ReferenceIdeal.Hand.ops (F := Ideal)) (StableHlo.launchContents m' c) (Proc.devRef .tc Cert.ReferenceIdeal.main_v1957) := by
  have hk := StableHlo.Ascending.eq_unary Cert.KernelIdeal.Hand.KOps_asc (Cert.KernelIdeal.Hand.Wl m ρ c) (Cert.KernelIdeal.Hand.mem_KOps_st7 (Cert.KernelIdeal.Hand.mem_st_7_50 (List.getElem_mem (l := Cert.KernelIdeal.GenP.hostOps7_50 (F := Ideal)) (n := 67) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part39 (List.getElem_mem (l := Cert.ReferenceIdeal.Hand.ops_part39 (F := Ideal)) (n := 47) (by decide))) rfl rfl (by decide) (hx := ⟨by decide, rfl⟩) (hy := ⟨by decide, rfl⟩)
  rw [hk, hr, ← c_main_v615__main_v1956 hag hel]

theorem c_main_v617__main_v1958 : StableHlo.after Cert.KernelIdeal.Hand.KOps (Cert.KernelIdeal.Hand.Wl (F := Ideal) m ρ c) (Proc.devRef .tc Cert.KernelIdeal.main_v617) = StableHlo.after (Cert.ReferenceIdeal.Hand.ops (F := Ideal)) (StableHlo.launchContents m' c) (Proc.devRef .tc Cert.ReferenceIdeal.main_v1958) := by
  have hk := StableHlo.Ascending.eq_unary Cert.KernelIdeal.Hand.KOps_asc (Cert.KernelIdeal.Hand.Wl m ρ c) (Cert.KernelIdeal.Hand.mem_KOps_st7 (Cert.KernelIdeal.Hand.mem_st_7_50 (List.getElem_mem (l := Cert.KernelIdeal.GenP.hostOps7_50 (F := Ideal)) (n := 68) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part39 (List.getElem_mem (l := Cert.ReferenceIdeal.Hand.ops_part39 (F := Ideal)) (n := 48) (by decide))) rfl rfl (by decide) (hx := ⟨by decide, rfl⟩) (hy := ⟨by decide, rfl⟩)
  rw [hk, hr, ← c_main_v616__main_v1957 hag hel]

theorem c_main_cst_118__main_cst_414 : StableHlo.after Cert.KernelIdeal.Hand.KOps (Cert.KernelIdeal.Hand.Wl (F := Ideal) m ρ c) (Proc.devRef .tc Cert.KernelIdeal.main_cst_118) = StableHlo.after (Cert.ReferenceIdeal.Hand.ops (F := Ideal)) (StableHlo.launchContents m' c) (Proc.devRef .tc Cert.ReferenceIdeal.main_cst_414) := by
  have hk := StableHlo.Ascending.eq_nullary Cert.KernelIdeal.Hand.KOps_asc (Cert.KernelIdeal.Hand.Wl m ρ c) (Cert.KernelIdeal.Hand.mem_KOps_st7 (Cert.KernelIdeal.Hand.mem_st_7_50 (List.getElem_mem (l := Cert.KernelIdeal.GenP.hostOps7_50 (F := Ideal)) (n := 69) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part39 (List.getElem_mem (l := Cert.ReferenceIdeal.Hand.ops_part39 (F := Ideal)) (n := 49) (by decide))) rfl (hy := ⟨by decide, rfl⟩)
  rw [hk, hr]

theorem c_main_v618__main_v1959 : StableHlo.after Cert.KernelIdeal.Hand.KOps (Cert.KernelIdeal.Hand.Wl (F := Ideal) m ρ c) (Proc.devRef .tc Cert.KernelIdeal.main_v618) = StableHlo.after (Cert.ReferenceIdeal.Hand.ops (F := Ideal)) (StableHlo.launchContents m' c) (Proc.devRef .tc Cert.ReferenceIdeal.main_v1959) := by
  have hk := StableHlo.Ascending.eq_unary Cert.KernelIdeal.Hand.KOps_asc (Cert.KernelIdeal.Hand.Wl m ρ c) (Cert.KernelIdeal.Hand.mem_KOps_st7 (Cert.KernelIdeal.Hand.mem_st_7_50 (List.getElem_mem (l := Cert.KernelIdeal.GenP.hostOps7_50 (F := Ideal)) (n := 70) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part39 (List.getElem_mem (l := Cert.ReferenceIdeal.Hand.ops_part39 (F := Ideal)) (n := 50) (by decide))) rfl rfl (by decide) (hx := ⟨by decide, rfl⟩) (hy := ⟨by decide, rfl⟩)
  rw [hk, hr, ← c_main_cst_118__main_cst_414 hag hel]

theorem c_main_v619__main_v1960 : StableHlo.after Cert.KernelIdeal.Hand.KOps (Cert.KernelIdeal.Hand.Wl (F := Ideal) m ρ c) (Proc.devRef .tc Cert.KernelIdeal.main_v619) = StableHlo.after (Cert.ReferenceIdeal.Hand.ops (F := Ideal)) (StableHlo.launchContents m' c) (Proc.devRef .tc Cert.ReferenceIdeal.main_v1960) := by
  have hk := StableHlo.Ascending.eq_binary Cert.KernelIdeal.Hand.KOps_asc (Cert.KernelIdeal.Hand.Wl m ρ c) (Cert.KernelIdeal.Hand.mem_KOps_st7 (Cert.KernelIdeal.Hand.mem_st_7_50 (List.getElem_mem (l := Cert.KernelIdeal.GenP.hostOps7_50 (F := Ideal)) (n := 71) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part39 (List.getElem_mem (l := Cert.ReferenceIdeal.Hand.ops_part39 (F := Ideal)) (n := 51) (by decide))) rfl rfl rfl (by decide) (by decide) (ha := ⟨by decide, rfl⟩) (hb := ⟨by decide, rfl⟩) (hy := ⟨by decide, rfl⟩)
  rw [hk, hr, ← c_main_v618__main_v1959 hag hel, ← c_main_v617__main_v1958 hag hel]

theorem c_main_cst_119__main_cst_415 : StableHlo.after Cert.KernelIdeal.Hand.KOps (Cert.KernelIdeal.Hand.Wl (F := Ideal) m ρ c) (Proc.devRef .tc Cert.KernelIdeal.main_cst_119) = StableHlo.after (Cert.ReferenceIdeal.Hand.ops (F := Ideal)) (StableHlo.launchContents m' c) (Proc.devRef .tc Cert.ReferenceIdeal.main_cst_415) := by
  have hk := StableHlo.Ascending.eq_nullary Cert.KernelIdeal.Hand.KOps_asc (Cert.KernelIdeal.Hand.Wl m ρ c) (Cert.KernelIdeal.Hand.mem_KOps_st7 (Cert.KernelIdeal.Hand.mem_st_7_50 (List.getElem_mem (l := Cert.KernelIdeal.GenP.hostOps7_50 (F := Ideal)) (n := 72) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part39 (List.getElem_mem (l := Cert.ReferenceIdeal.Hand.ops_part39 (F := Ideal)) (n := 52) (by decide))) rfl (hy := ⟨by decide, rfl⟩)
  rw [hk, hr]

theorem c_main_v620__main_v1961 : StableHlo.after Cert.KernelIdeal.Hand.KOps (Cert.KernelIdeal.Hand.Wl (F := Ideal) m ρ c) (Proc.devRef .tc Cert.KernelIdeal.main_v620) = StableHlo.after (Cert.ReferenceIdeal.Hand.ops (F := Ideal)) (StableHlo.launchContents m' c) (Proc.devRef .tc Cert.ReferenceIdeal.main_v1961) := by
  have hk := StableHlo.Ascending.eq_unary Cert.KernelIdeal.Hand.KOps_asc (Cert.KernelIdeal.Hand.Wl m ρ c) (Cert.KernelIdeal.Hand.mem_KOps_st7 (Cert.KernelIdeal.Hand.mem_st_7_50 (List.getElem_mem (l := Cert.KernelIdeal.GenP.hostOps7_50 (F := Ideal)) (n := 73) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part39 (List.getElem_mem (l := Cert.ReferenceIdeal.Hand.ops_part39 (F := Ideal)) (n := 53) (by decide))) rfl rfl (by decide) (hx := ⟨by decide, rfl⟩) (hy := ⟨by decide, rfl⟩)
  rw [hk, hr, ← c_main_cst_119__main_cst_415 hag hel]

end Cert.Value

end
-- ==== Proof.Val.C018.lean ====
/- Steps C018 of the value claim's chain: for each listed pair, the kernel program's buffer and its reference twin hold equal contents at the two programs' final
   valuations — the two operations are the same function (read off the two operation lists) of operands already paired. A table; written by: bun scratch/corr.js 60 -/
import proofs.«146970_j35948876268088_1_alg».proof.Proof.Val.Seed
import proofs.«146970_j35948876268088_1_alg».proof.Proof.KI.Dots
import Mathlib.Tactic.FinCases
import proofs.«146970_j35948876268088_1_alg».proof.Proof.Val.C017

set_option maxRecDepth 16384

noncomputable section

namespace Cert.Value

open Idealize.ShloMosaic Idealize.ShloMosaic.TcCoe Idealize.SL.Sem

variable {m : (ℓ : Loc Cert.KernelIdeal.nD Cert.KernelIdeal.τ Cert.KernelIdeal.sig) → Buf (Elt Ideal) ℓ} {ρ : Dev Cert.KernelIdeal.nD → PrngReg}
  {m' : (ℓ : Loc Cert.ReferenceIdeal.nD Cert.ReferenceIdeal.τ Cert.ReferenceIdeal.sig) → Buf (Elt Ideal) ℓ} {c : Dev Cert.KernelIdeal.nD} (hag : Agree m m') (hel : Els m' c)
include hag hel

theorem c_main_v621__main_v1962 : StableHlo.after Cert.KernelIdeal.Hand.KOps (Cert.KernelIdeal.Hand.Wl (F := Ideal) m ρ c) (Proc.devRef .tc Cert.KernelIdeal.main_v621) = StableHlo.after (Cert.ReferenceIdeal.Hand.ops (F := Ideal)) (StableHlo.launchContents m' c) (Proc.devRef .tc Cert.ReferenceIdeal.main_v1962) := by
  have hk := StableHlo.Ascending.eq_binary Cert.KernelIdeal.Hand.KOps_asc (Cert.KernelIdeal.Hand.Wl m ρ c) (Cert.KernelIdeal.Hand.mem_KOps_st7 (Cert.KernelIdeal.Hand.mem_st_7_50 (List.getElem_mem (l := Cert.KernelIdeal.GenP.hostOps7_50 (F := Ideal)) (n := 74) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part39 (List.getElem_mem (l := Cert.ReferenceIdeal.Hand.ops_part39 (F := Ideal)) (n := 54) (by decide))) rfl rfl rfl (by decide) (by decide) (ha := ⟨by decide, rfl⟩) (hb := ⟨by decide, rfl⟩) (hy := ⟨by decide, rfl⟩)
  rw [hk, hr, ← c_main_v620__main_v1961 hag hel, ← c_main_v619__main_v1960 hag hel]

theorem c_main_v622__main_v1963 : StableHlo.after Cert.KernelIdeal.Hand.KOps (Cert.KernelIdeal.Hand.Wl (F := Ideal) m ρ c) (Proc.devRef .tc Cert.KernelIdeal.main_v622) = StableHlo.after (Cert.ReferenceIdeal.Hand.ops (F := Ideal)) (StableHlo.launchContents m' c) (Proc.devRef .tc Cert.ReferenceIdeal.main_v1963) := by
  have hk := StableHlo.Ascending.eq_unary Cert.KernelIdeal.Hand.KOps_asc (Cert.KernelIdeal.Hand.Wl m ρ c) (Cert.KernelIdeal.Hand.mem_KOps_st7 (Cert.KernelIdeal.Hand.mem_st_7_50 (List.getElem_mem (l := Cert.KernelIdeal.GenP.hostOps7_50 (F := Ideal)) (n := 75) (by decide)))) rfl rfl (by decide) (x := Cert.KernelIdeal.main_arg10) (y := Cert.KernelIdeal.main_v622) (f := open Cert.KernelIdeal Cert.KernelIdeal.Gen in (extractStridedSlice S1x16x16 ![2, 0, 0] · slices_S3x16x16_S1x16x16_2_0_0)) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part39 (List.getElem_mem (l := Cert.ReferenceIdeal.Hand.ops_part39 (F := Ideal)) (n := 55) (by decide))) rfl rfl (by decide) (x := Cert.ReferenceIdeal.main_arg10) (y := Cert.ReferenceIdeal.main_v1963) (f := open Cert.ReferenceIdeal Cert.ReferenceIdeal.Gen in (extractStridedSlice S1x16x16 ![2, 0, 0] · slices_S3x16x16_S1x16x16_2_0_0)) (hx := ⟨by decide, rfl⟩) (hy := ⟨by decide, rfl⟩)
  rw [hk, hr, ← c_main_arg10__main_arg10 hag hel]

theorem c_main_v623__main_v1964 : StableHlo.after Cert.KernelIdeal.Hand.KOps (Cert.KernelIdeal.Hand.Wl (F := Ideal) m ρ c) (Proc.devRef .tc Cert.KernelIdeal.main_v623) = StableHlo.after (Cert.ReferenceIdeal.Hand.ops (F := Ideal)) (StableHlo.launchContents m' c) (Proc.devRef .tc Cert.ReferenceIdeal.main_v1964) := by
  have hk := StableHlo.Ascending.eq_reshape Cert.KernelIdeal.Hand.KOps_asc (Cert.KernelIdeal.Hand.Wl m ρ c) (Cert.KernelIdeal.Hand.mem_KOps_st7 (Cert.KernelIdeal.Hand.mem_st_7_50 (List.getElem_mem (l := Cert.KernelIdeal.GenP.hostOps7_50 (F := Ideal)) (n := 76) (by decide)))) rfl rfl (by decide) (x := Cert.KernelIdeal.main_v622) (y := Cert.KernelIdeal.main_v623) (he := rfl) (hn := Cert.KernelIdeal.Gen.shapeCasts_S1x16x16_S16x16) (hx := ⟨by decide, rfl⟩) (hy := ⟨by decide, rfl⟩)
  have hr := StableHlo.Ascending.eq_reshape (Cert.ReferenceIdeal.Hand.ops_asc (F := Ideal)) (StableHlo.launchContents m' c) (Cert.ReferenceIdeal.Hand.mem_ops_part39 (List.getElem_mem (l := Cert.ReferenceIdeal.Hand.ops_part39 (F := Ideal)) (n := 56) (by decide))) rfl rfl (by decide) (x := Cert.ReferenceIdeal.main_v1963) (y := Cert.ReferenceIdeal.main_v1964) (he := rfl) (hn := Cert.ReferenceIdeal.Gen.shapeCasts_S1x16x16_S16x16) (hx := ⟨by decide, rfl⟩) (hy := ⟨by decide, rfl⟩)
  rw [hk, hr, ← c_main_v622__main_v1963 hag hel]
  rfl

theorem c_main_v624__main_v1965 : StableHlo.after Cert.KernelIdeal.Hand.KOps (Cert.KernelIdeal.Hand.Wl (F := Ideal) m ρ c) (Proc.devRef .tc Cert.KernelIdeal.main_v624) = StableHlo.after (Cert.ReferenceIdeal.Hand.ops (F := Ideal)) (StableHlo.launchContents m' c) (Proc.devRef .tc Cert.ReferenceIdeal.main_v1965) := by
  have hk := StableHlo.Ascending.eq_binary Cert.KernelIdeal.Hand.KOps_asc (Cert.KernelIdeal.Hand.Wl m ρ c) (Cert.KernelIdeal.Hand.mem_KOps_st7 (Cert.KernelIdeal.Hand.mem_st_7_50 (List.getElem_mem (l := Cert.KernelIdeal.GenP.hostOps7_50 (F := Ideal)) (n := 77) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part39 (List.getElem_mem (l := Cert.ReferenceIdeal.Hand.ops_part39 (F := Ideal)) (n := 57) (by decide))) rfl rfl rfl (by decide) (by decide) (ha := ⟨by decide, rfl⟩) (hb := ⟨by decide, rfl⟩) (hy := ⟨by decide, rfl⟩)
  rw [hk, hr, ← c_main_v623__main_v1964 hag hel, ← c_main_v595__main_v1813 hag hel]
  rfl

theorem c_main_v625__main_v1966 : StableHlo.after Cert.KernelIdeal.Hand.KOps (Cert.KernelIdeal.Hand.Wl (F := Ideal) m ρ c) (Proc.devRef .tc Cert.KernelIdeal.main_v625) = StableHlo.after (Cert.ReferenceIdeal.Hand.ops (F := Ideal)) (StableHlo.launchContents m' c) (Proc.devRef .tc Cert.ReferenceIdeal.main_v1966) := by
  have hk := StableHlo.Ascending.eq_unary Cert.KernelIdeal.Hand.KOps_asc (Cert.KernelIdeal.Hand.Wl m ρ c) (Cert.KernelIdeal.Hand.mem_KOps_st7 (Cert.KernelIdeal.Hand.mem_st_7_50 (List.getElem_mem (l := Cert.KernelIdeal.GenP.hostOps7_50 (F := Ideal)) (n := 78) (by decide)))) rfl rfl (by decide) (x := Cert.KernelIdeal.main_arg11) (y := Cert.KernelIdeal.main_v625) (f := open Cert.KernelIdeal Cert.KernelIdeal.Gen in (extractStridedSlice S1x16x16 ![2, 0, 0] · slices_S3x16x16_S1x16x16_2_0_0)) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part39 (List.getElem_mem (l := Cert.ReferenceIdeal.Hand.ops_part39 (F := Ideal)) (n := 58) (by decide))) rfl rfl (by decide) (x := Cert.ReferenceIdeal.main_arg11) (y := Cert.ReferenceIdeal.main_v1966) (f := open Cert.ReferenceIdeal Cert.ReferenceIdeal.Gen in (extractStridedSlice S1x16x16 ![2, 0, 0] · slices_S3x16x16_S1x16x16_2_0_0)) (hx := ⟨by decide, rfl⟩) (hy := ⟨by decide, rfl⟩)
  rw [hk, hr, ← c_main_arg11__main_arg11 hag hel]

theorem c_main_v626__main_v1967 : StableHlo.after Cert.KernelIdeal.Hand.KOps (Cert.KernelIdeal.Hand.Wl (F := Ideal) m ρ c) (Proc.devRef .tc Cert.KernelIdeal.main_v626) = StableHlo.after (Cert.ReferenceIdeal.Hand.ops (F := Ideal)) (StableHlo.launchContents m' c) (Proc.devRef .tc Cert.ReferenceIdeal.main_v1967) := by
  have hk := StableHlo.Ascending.eq_reshape Cert.KernelIdeal.Hand.KOps_asc (Cert.KernelIdeal.Hand.Wl m ρ c) (Cert.KernelIdeal.Hand.mem_KOps_st7 (Cert.KernelIdeal.Hand.mem_st_7_50 (List.getElem_mem (l := Cert.KernelIdeal.GenP.hostOps7_50 (F := Ideal)) (n := 79) (by decide)))) rfl rfl (by decide) (x := Cert.KernelIdeal.main_v625) (y := Cert.KernelIdeal.main_v626) (he := rfl) (hn := Cert.KernelIdeal.Gen.shapeCasts_S1x16x16_S16x16) (hx := ⟨by decide, rfl⟩) (hy := ⟨by decide, rfl⟩)
  have hr := StableHlo.Ascending.eq_reshape (Cert.ReferenceIdeal.Hand.ops_asc (F := Ideal)) (StableHlo.launchContents m' c) (Cert.ReferenceIdeal.Hand.mem_ops_part39 (List.getElem_mem (l := Cert.ReferenceIdeal.Hand.ops_part39 (F := Ideal)) (n := 59) (by decide))) rfl rfl (by decide) (x := Cert.ReferenceIdeal.main_v1966) (y := Cert.ReferenceIdeal.main_v1967) (he := rfl) (hn := Cert.ReferenceIdeal.Gen.shapeCasts_S1x16x16_S16x16) (hx := ⟨by decide, rfl⟩) (hy := ⟨by decide, rfl⟩)
  rw [hk, hr, ← c_main_v625__main_v1966 hag hel]
  rfl

theorem c_main_v627__main_v1968 : StableHlo.after Cert.KernelIdeal.Hand.KOps (Cert.KernelIdeal.Hand.Wl (F := Ideal) m ρ c) (Proc.devRef .tc Cert.KernelIdeal.main_v627) = StableHlo.after (Cert.ReferenceIdeal.Hand.ops (F := Ideal)) (StableHlo.launchContents m' c) (Proc.devRef .tc Cert.ReferenceIdeal.main_v1968) := by
  have hk := StableHlo.Ascending.eq_binary Cert.KernelIdeal.Hand.KOps_asc (Cert.KernelIdeal.Hand.Wl m ρ c) (Cert.KernelIdeal.Hand.mem_KOps_st7 (Cert.KernelIdeal.Hand.mem_st_7_50 (List.getElem_mem (l := Cert.KernelIdeal.GenP.hostOps7_50 (F := Ideal)) (n := 80) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part39 (List.getElem_mem (l := Cert.ReferenceIdeal.Hand.ops_part39 (F := Ideal)) (n := 60) (by decide))) rfl rfl rfl (by decide) (by decide) (ha := ⟨by decide, rfl⟩) (hb := ⟨by decide, rfl⟩) (hy := ⟨by decide, rfl⟩)
  rw [hk, hr, ← c_main_v621__main_v1962 hag hel, ← c_main_v595__main_v1813 hag hel]

theorem c_main_v628__main_v1969 : StableHlo.after Cert.KernelIdeal.Hand.KOps (Cert.KernelIdeal.Hand.Wl (F := Ideal) m ρ c) (Proc.devRef .tc Cert.KernelIdeal.main_v628) = StableHlo.after (Cert.ReferenceIdeal.Hand.ops (F := Ideal)) (StableHlo.launchContents m' c) (Proc.devRef .tc Cert.ReferenceIdeal.main_v1969) := by
  have hk := StableHlo.Ascending.eq_binary Cert.KernelIdeal.Hand.KOps_asc (Cert.KernelIdeal.Hand.Wl m ρ c) (Cert.KernelIdeal.Hand.mem_KOps_st7 (Cert.KernelIdeal.Hand.mem_st_7_50 (List.getElem_mem (l := Cert.KernelIdeal.GenP.hostOps7_50 (F := Ideal)) (n := 81) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part39 (List.getElem_mem (l := Cert.ReferenceIdeal.Hand.ops_part39 (F := Ideal)) (n := 61) (by decide))) rfl rfl rfl (by decide) (by decide) (ha := ⟨by decide, rfl⟩) (hb := ⟨by decide, rfl⟩) (hy := ⟨by decide, rfl⟩)
  rw [hk, hr, ← c_main_v626__main_v1967 hag hel, ← c_main_v627__main_v1968 hag hel]
  rfl

theorem c_main_v629__main_v1970 : StableHlo.after Cert.KernelIdeal.Hand.KOps (Cert.KernelIdeal.Hand.Wl (F := Ideal) m ρ c) (Proc.devRef .tc Cert.KernelIdeal.main_v629) = StableHlo.after (Cert.ReferenceIdeal.Hand.ops (F := Ideal)) (StableHlo.launchContents m' c) (Proc.devRef .tc Cert.ReferenceIdeal.main_v1970) := by
  have hk := StableHlo.Ascending.eq_binary Cert.KernelIdeal.Hand.KOps_asc (Cert.KernelIdeal.Hand.Wl m ρ c) (Cert.KernelIdeal.Hand.mem_KOps_st7 (Cert.KernelIdeal.Hand.mem_st_7_50 (List.getElem_mem (l := Cert.KernelIdeal.GenP.hostOps7_50 (F := Ideal)) (n := 82) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part39 (List.getElem_mem (l := Cert.ReferenceIdeal.Hand.ops_part39 (F := Ideal)) (n := 62) (by decide))) rfl rfl rfl (by decide) (by decide) (ha := ⟨by decide, rfl⟩) (hb := ⟨by decide, rfl⟩) (hy := ⟨by decide, rfl⟩)
  rw [hk, hr, ← c_main_v624__main_v1965 hag hel, ← c_main_v628__main_v1969 hag hel]

theorem c_main_v630__main_v1971 : StableHlo.after Cert.KernelIdeal.Hand.KOps (Cert.KernelIdeal.Hand.Wl (F := Ideal) m ρ c) (Proc.devRef .tc Cert.KernelIdeal.main_v630) = StableHlo.after (Cert.ReferenceIdeal.Hand.ops (F := Ideal)) (StableHlo.launchContents m' c) (Proc.devRef .tc Cert.ReferenceIdeal.main_v1971) := by
  have hk := StableHlo.Ascending.eq_unary Cert.KernelIdeal.Hand.KOps_asc (Cert.KernelIdeal.Hand.Wl m ρ c) (Cert.KernelIdeal.Hand.mem_KOps_st7 (Cert.KernelIdeal.Hand.mem_st_7_50 (List.getElem_mem (l := Cert.KernelIdeal.GenP.hostOps7_50 (F := Ideal)) (n := 83) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part39 (List.getElem_mem (l := Cert.ReferenceIdeal.Hand.ops_part39 (F := Ideal)) (n := 63) (by decide))) rfl rfl (by decide) (hx := ⟨by decide, rfl⟩) (hy := ⟨by decide, rfl⟩)
  rw [hk, hr, ← c_main_v629__main_v1970 hag hel]

theorem c_main_cst_120__main_cst_416 : StableHlo.after Cert.KernelIdeal.Hand.KOps (Cert.KernelIdeal.Hand.Wl (F := Ideal) m ρ c) (Proc.devRef .tc Cert.KernelIdeal.main_cst_120) = StableHlo.after (Cert.ReferenceIdeal.Hand.ops (F := Ideal)) (StableHlo.launchContents m' c) (Proc.devRef .tc Cert.ReferenceIdeal.main_cst_416) := by
  have hk := StableHlo.Ascending.eq_nullary Cert.KernelIdeal.Hand.KOps_asc (Cert.KernelIdeal.Hand.Wl m ρ c) (Cert.KernelIdeal.Hand.mem_KOps_st7 (Cert.KernelIdeal.Hand.mem_st_7_50 (List.getElem_mem (l := Cert.KernelIdeal.GenP.hostOps7_50 (F := Ideal)) (n := 84) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part39 (List.getElem_mem (l := Cert.ReferenceIdeal.Hand.ops_part39 (F := Ideal)) (n := 64) (by decide))) rfl (hy := ⟨by decide, rfl⟩)
  rw [hk, hr]

theorem c_main_v631__main_v1972 : StableHlo.after Cert.KernelIdeal.Hand.KOps (Cert.KernelIdeal.Hand.Wl (F := Ideal) m ρ c) (Proc.devRef .tc Cert.KernelIdeal.main_v631) = StableHlo.after (Cert.ReferenceIdeal.Hand.ops (F := Ideal)) (StableHlo.launchContents m' c) (Proc.devRef .tc Cert.ReferenceIdeal.main_v1972) := by
  have hk := StableHlo.Ascending.eq_unary Cert.KernelIdeal.Hand.KOps_asc (Cert.KernelIdeal.Hand.Wl m ρ c) (Cert.KernelIdeal.Hand.mem_KOps_st7 (Cert.KernelIdeal.Hand.mem_st_7_50 (List.getElem_mem (l := Cert.KernelIdeal.GenP.hostOps7_50 (F := Ideal)) (n := 85) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part39 (List.getElem_mem (l := Cert.ReferenceIdeal.Hand.ops_part39 (F := Ideal)) (n := 65) (by decide))) rfl rfl (by decide) (hx := ⟨by decide, rfl⟩) (hy := ⟨by decide, rfl⟩)
  rw [hk, hr, ← c_main_cst_120__main_cst_416 hag hel]

theorem c_main_v632__main_v1973 : StableHlo.after Cert.KernelIdeal.Hand.KOps (Cert.KernelIdeal.Hand.Wl (F := Ideal) m ρ c) (Proc.devRef .tc Cert.KernelIdeal.main_v632) = StableHlo.after (Cert.ReferenceIdeal.Hand.ops (F := Ideal)) (StableHlo.launchContents m' c) (Proc.devRef .tc Cert.ReferenceIdeal.main_v1973) := by
  have hk := StableHlo.Ascending.eq_binary Cert.KernelIdeal.Hand.KOps_asc (Cert.KernelIdeal.Hand.Wl m ρ c) (Cert.KernelIdeal.Hand.mem_KOps_st7 (Cert.KernelIdeal.Hand.mem_st_7_50 (List.getElem_mem (l := Cert.KernelIdeal.GenP.hostOps7_50 (F := Ideal)) (n := 86) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part39 (List.getElem_mem (l := Cert.ReferenceIdeal.Hand.ops_part39 (F := Ideal)) (n := 66) (by decide))) rfl rfl rfl (by decide) (by decide) (ha := ⟨by decide, rfl⟩) (hb := ⟨by decide, rfl⟩) (hy := ⟨by decide, rfl⟩)
  rw [hk, hr, ← c_main_v631__main_v1972 hag hel, ← c_main_v608__main_v1949 hag hel]

theorem c_main_v633__main_v1974 : StableHlo.after Cert.KernelIdeal.Hand.KOps (Cert.KernelIdeal.Hand.Wl (F := Ideal) m ρ c) (Proc.devRef .tc Cert.KernelIdeal.main_v633) = StableHlo.after (Cert.ReferenceIdeal.Hand.ops (F := Ideal)) (StableHlo.launchContents m' c) (Proc.devRef .tc Cert.ReferenceIdeal.main_v1974) := by
  have hk := StableHlo.Ascending.eq_binary Cert.KernelIdeal.Hand.KOps_asc (Cert.KernelIdeal.Hand.Wl m ρ c) (Cert.KernelIdeal.Hand.mem_KOps_st7 (Cert.KernelIdeal.Hand.mem_st_7_50 (List.getElem_mem (l := Cert.KernelIdeal.GenP.hostOps7_50 (F := Ideal)) (n := 87) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part39 (List.getElem_mem (l := Cert.ReferenceIdeal.Hand.ops_part39 (F := Ideal)) (n := 67) (by decide))) rfl rfl rfl (by decide) (by decide) (ha := ⟨by decide, rfl⟩) (hb := ⟨by decide, rfl⟩) (hy := ⟨by decide, rfl⟩)
  rw [hk, hr, ← c_main_v632__main_v1973 hag hel, ← c_main_v595__main_v1813 hag hel]

theorem c_main_v634__main_v1975 : StableHlo.after Cert.KernelIdeal.Hand.KOps (Cert.KernelIdeal.Hand.Wl (F := Ideal) m ρ c) (Proc.devRef .tc Cert.KernelIdeal.main_v634) = StableHlo.after (Cert.ReferenceIdeal.Hand.ops (F := Ideal)) (StableHlo.launchContents m' c) (Proc.devRef .tc Cert.ReferenceIdeal.main_v1975) := by
  have hk := StableHlo.Ascending.eq_binary Cert.KernelIdeal.Hand.KOps_asc (Cert.KernelIdeal.Hand.Wl m ρ c) (Cert.KernelIdeal.Hand.mem_KOps_st7 (Cert.KernelIdeal.Hand.mem_st_7_50 (List.getElem_mem (l := Cert.KernelIdeal.GenP.hostOps7_50 (F := Ideal)) (n := 88) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part39 (List.getElem_mem (l := Cert.ReferenceIdeal.Hand.ops_part39 (F := Ideal)) (n := 68) (by decide))) rfl rfl rfl (by decide) (by decide) (ha := ⟨by decide, rfl⟩) (hb := ⟨by decide, rfl⟩) (hy := ⟨by decide, rfl⟩)
  rw [hk, hr, ← c_main_v608__main_v1949 hag hel, ← c_main_v630__main_v1971 hag hel]

theorem c_main_v635__main_v1976 : StableHlo.after Cert.KernelIdeal.Hand.KOps (Cert.KernelIdeal.Hand.Wl (F := Ideal) m ρ c) (Proc.devRef .tc Cert.KernelIdeal.main_v635) = StableHlo.after (Cert.ReferenceIdeal.Hand.ops (F := Ideal)) (StableHlo.launchContents m' c) (Proc.devRef .tc Cert.ReferenceIdeal.main_v1976) := by
  have hk := StableHlo.Ascending.eq_binary Cert.KernelIdeal.Hand.KOps_asc (Cert.KernelIdeal.Hand.Wl m ρ c) (Cert.KernelIdeal.Hand.mem_KOps_st7 (Cert.KernelIdeal.Hand.mem_st_7_50 (List.getElem_mem (l := Cert.KernelIdeal.GenP.hostOps7_50 (F := Ideal)) (n := 89) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part39 (List.getElem_mem (l := Cert.ReferenceIdeal.Hand.ops_part39 (F := Ideal)) (n := 69) (by decide))) rfl rfl rfl (by decide) (by decide) (ha := ⟨by decide, rfl⟩) (hb := ⟨by decide, rfl⟩) (hy := ⟨by decide, rfl⟩)
  rw [hk, hr, ← c_main_v633__main_v1974 hag hel, ← c_main_v634__main_v1975 hag hel]

theorem c_main_v636__main_v2100 : StableHlo.after Cert.KernelIdeal.Hand.KOps (Cert.KernelIdeal.Hand.Wl (F := Ideal) m ρ c) (Proc.devRef .tc Cert.KernelIdeal.main_v636) = StableHlo.after (Cert.ReferenceIdeal.Hand.ops (F := Ideal)) (StableHlo.launchContents m' c) (Proc.devRef .tc Cert.ReferenceIdeal.main_v2100) := by
  have hk := StableHlo.Ascending.eq_unary Cert.KernelIdeal.Hand.KOps_asc (Cert.KernelIdeal.Hand.Wl m ρ c) (Cert.KernelIdeal.Hand.mem_KOps_st7 (Cert.KernelIdeal.Hand.mem_st_7_50 (List.getElem_mem (l := Cert.KernelIdeal.GenP.hostOps7_50 (F := Ideal)) (n := 90) (by decide)))) rfl rfl (by decide) (x := Cert.KernelIdeal.main_arg10) (y := Cert.KernelIdeal.main_v636) (f := open Cert.KernelIdeal Cert.KernelIdeal.Gen in (extractStridedSlice S1x16x16 ![0, 0, 0] · slices_S3x16x16_S1x16x16_0_0_0)) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part42 (List.getElem_mem (l := Cert.ReferenceIdeal.Hand.ops_part42 (F := Ideal)) (n := 43) (by decide))) rfl rfl (by decide) (x := Cert.ReferenceIdeal.main_arg10) (y := Cert.ReferenceIdeal.main_v2100) (f := open Cert.ReferenceIdeal Cert.ReferenceIdeal.Gen in (extractStridedSlice S1x16x16 ![0, 0, 0] · slices_S3x16x16_S1x16x16_0_0_0)) (hx := ⟨by decide, rfl⟩) (hy := ⟨by decide, rfl⟩)
  rw [hk, hr, ← c_main_arg10__main_arg10 hag hel]

theorem c_main_v637__main_v2101 : StableHlo.after Cert.KernelIdeal.Hand.KOps (Cert.KernelIdeal.Hand.Wl (F := Ideal) m ρ c) (Proc.devRef .tc Cert.KernelIdeal.main_v637) = StableHlo.after (Cert.ReferenceIdeal.Hand.ops (F := Ideal)) (StableHlo.launchContents m' c) (Proc.devRef .tc Cert.ReferenceIdeal.main_v2101) := by
  have hk := StableHlo.Ascending.eq_reshape Cert.KernelIdeal.Hand.KOps_asc (Cert.KernelIdeal.Hand.Wl m ρ c) (Cert.KernelIdeal.Hand.mem_KOps_st7 (Cert.KernelIdeal.Hand.mem_st_7_50 (List.getElem_mem (l := Cert.KernelIdeal.GenP.hostOps7_50 (F := Ideal)) (n := 91) (by decide)))) rfl rfl (by decide) (x := Cert.KernelIdeal.main_v636) (y := Cert.KernelIdeal.main_v637) (he := rfl) (hn := Cert.KernelIdeal.Gen.shapeCasts_S1x16x16_S16x16) (hx := ⟨by decide, rfl⟩) (hy := ⟨by decide, rfl⟩)
  have hr := StableHlo.Ascending.eq_reshape (Cert.ReferenceIdeal.Hand.ops_asc (F := Ideal)) (StableHlo.launchContents m' c) (Cert.ReferenceIdeal.Hand.mem_ops_part42 (List.getElem_mem (l := Cert.ReferenceIdeal.Hand.ops_part42 (F := Ideal)) (n := 44) (by decide))) rfl rfl (by decide) (x := Cert.ReferenceIdeal.main_v2100) (y := Cert.ReferenceIdeal.main_v2101) (he := rfl) (hn := Cert.ReferenceIdeal.Gen.shapeCasts_S1x16x16_S16x16) (hx := ⟨by decide, rfl⟩) (hy := ⟨by decide, rfl⟩)
  rw [hk, hr, ← c_main_v636__main_v2100 hag hel]
  rfl

theorem c_main_v638__main_v2102 : StableHlo.after Cert.KernelIdeal.Hand.KOps (Cert.KernelIdeal.Hand.Wl (F := Ideal) m ρ c) (Proc.devRef .tc Cert.KernelIdeal.main_v638) = StableHlo.after (Cert.ReferenceIdeal.Hand.ops (F := Ideal)) (StableHlo.launchContents m' c) (Proc.devRef .tc Cert.ReferenceIdeal.main_v2102) := by
  have hk := StableHlo.Ascending.eq_binary Cert.KernelIdeal.Hand.KOps_asc (Cert.KernelIdeal.Hand.Wl m ρ c) (Cert.KernelIdeal.Hand.mem_KOps_st7 (Cert.KernelIdeal.Hand.mem_st_7_50 (List.getElem_mem (l := Cert.KernelIdeal.GenP.hostOps7_50 (F := Ideal)) (n := 92) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part42 (List.getElem_mem (l := Cert.ReferenceIdeal.Hand.ops_part42 (F := Ideal)) (n := 45) (by decide))) rfl rfl rfl (by decide) (by decide) (ha := ⟨by decide, rfl⟩) (hb := ⟨by decide, rfl⟩) (hy := ⟨by decide, rfl⟩)
  rw [hk, hr, ← c_main_v637__main_v2101 hag hel, ← c_main_v635__main_v1976 hag hel]
  rfl

theorem c_main_v639__main_v2103 : StableHlo.after Cert.KernelIdeal.Hand.KOps (Cert.KernelIdeal.Hand.Wl (F := Ideal) m ρ c) (Proc.devRef .tc Cert.KernelIdeal.main_v639) = StableHlo.after (Cert.ReferenceIdeal.Hand.ops (F := Ideal)) (StableHlo.launchContents m' c) (Proc.devRef .tc Cert.ReferenceIdeal.main_v2103) := by
  have hk := StableHlo.Ascending.eq_unary Cert.KernelIdeal.Hand.KOps_asc (Cert.KernelIdeal.Hand.Wl m ρ c) (Cert.KernelIdeal.Hand.mem_KOps_st7 (Cert.KernelIdeal.Hand.mem_st_7_50 (List.getElem_mem (l := Cert.KernelIdeal.GenP.hostOps7_50 (F := Ideal)) (n := 93) (by decide)))) rfl rfl (by decide) (x := Cert.KernelIdeal.main_arg11) (y := Cert.KernelIdeal.main_v639) (f := open Cert.KernelIdeal Cert.KernelIdeal.Gen in (extractStridedSlice S1x16x16 ![0, 0, 0] · slices_S3x16x16_S1x16x16_0_0_0)) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part42 (List.getElem_mem (l := Cert.ReferenceIdeal.Hand.ops_part42 (F := Ideal)) (n := 46) (by decide))) rfl rfl (by decide) (x := Cert.ReferenceIdeal.main_arg11) (y := Cert.ReferenceIdeal.main_v2103) (f := open Cert.ReferenceIdeal Cert.ReferenceIdeal.Gen in (extractStridedSlice S1x16x16 ![0, 0, 0] · slices_S3x16x16_S1x16x16_0_0_0)) (hx := ⟨by decide, rfl⟩) (hy := ⟨by decide, rfl⟩)
  rw [hk, hr, ← c_main_arg11__main_arg11 hag hel]

theorem c_main_v640__main_v2104 : StableHlo.after Cert.KernelIdeal.Hand.KOps (Cert.KernelIdeal.Hand.Wl (F := Ideal) m ρ c) (Proc.devRef .tc Cert.KernelIdeal.main_v640) = StableHlo.after (Cert.ReferenceIdeal.Hand.ops (F := Ideal)) (StableHlo.launchContents m' c) (Proc.devRef .tc Cert.ReferenceIdeal.main_v2104) := by
  have hk := StableHlo.Ascending.eq_reshape Cert.KernelIdeal.Hand.KOps_asc (Cert.KernelIdeal.Hand.Wl m ρ c) (Cert.KernelIdeal.Hand.mem_KOps_st7 (Cert.KernelIdeal.Hand.mem_st_7_50 (List.getElem_mem (l := Cert.KernelIdeal.GenP.hostOps7_50 (F := Ideal)) (n := 94) (by decide)))) rfl rfl (by decide) (x := Cert.KernelIdeal.main_v639) (y := Cert.KernelIdeal.main_v640) (he := rfl) (hn := Cert.KernelIdeal.Gen.shapeCasts_S1x16x16_S16x16) (hx := ⟨by decide, rfl⟩) (hy := ⟨by decide, rfl⟩)
  have hr := StableHlo.Ascending.eq_reshape (Cert.ReferenceIdeal.Hand.ops_asc (F := Ideal)) (StableHlo.launchContents m' c) (Cert.ReferenceIdeal.Hand.mem_ops_part42 (List.getElem_mem (l := Cert.ReferenceIdeal.Hand.ops_part42 (F := Ideal)) (n := 47) (by decide))) rfl rfl (by decide) (x := Cert.ReferenceIdeal.main_v2103) (y := Cert.ReferenceIdeal.main_v2104) (he := rfl) (hn := Cert.ReferenceIdeal.Gen.shapeCasts_S1x16x16_S16x16) (hx := ⟨by decide, rfl⟩) (hy := ⟨by decide, rfl⟩)
  rw [hk, hr, ← c_main_v639__main_v2103 hag hel]
  rfl

theorem c_main_v641__main_v2105 : StableHlo.after Cert.KernelIdeal.Hand.KOps (Cert.KernelIdeal.Hand.Wl (F := Ideal) m ρ c) (Proc.devRef .tc Cert.KernelIdeal.main_v641) = StableHlo.after (Cert.ReferenceIdeal.Hand.ops (F := Ideal)) (StableHlo.launchContents m' c) (Proc.devRef .tc Cert.ReferenceIdeal.main_v2105) := by
  have hk := StableHlo.Ascending.eq_binary Cert.KernelIdeal.Hand.KOps_asc (Cert.KernelIdeal.Hand.Wl m ρ c) (Cert.KernelIdeal.Hand.mem_KOps_st7 (Cert.KernelIdeal.Hand.mem_st_7_50 (List.getElem_mem (l := Cert.KernelIdeal.GenP.hostOps7_50 (F := Ideal)) (n := 95) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part42 (List.getElem_mem (l := Cert.ReferenceIdeal.Hand.ops_part42 (F := Ideal)) (n := 48) (by decide))) rfl rfl rfl (by decide) (by decide) (ha := ⟨by decide, rfl⟩) (hb := ⟨by decide, rfl⟩) (hy := ⟨by decide, rfl⟩)
  rw [hk, hr, ← c_main_v640__main_v2104 hag hel, ← c_main_v635__main_v1976 hag hel]
  rfl

theorem c_main_v642__main_v2106 : StableHlo.after Cert.KernelIdeal.Hand.KOps (Cert.KernelIdeal.Hand.Wl (F := Ideal) m ρ c) (Proc.devRef .tc Cert.KernelIdeal.main_v642) = StableHlo.after (Cert.ReferenceIdeal.Hand.ops (F := Ideal)) (StableHlo.launchContents m' c) (Proc.devRef .tc Cert.ReferenceIdeal.main_v2106) := by
  have hk := StableHlo.Ascending.eq_binary Cert.KernelIdeal.Hand.KOps_asc (Cert.KernelIdeal.Hand.Wl m ρ c) (Cert.KernelIdeal.Hand.mem_KOps_st7 (Cert.KernelIdeal.Hand.mem_st_7_50 (List.getElem_mem (l := Cert.KernelIdeal.GenP.hostOps7_50 (F := Ideal)) (n := 96) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part42 (List.getElem_mem (l := Cert.ReferenceIdeal.Hand.ops_part42 (F := Ideal)) (n := 49) (by decide))) rfl rfl rfl (by decide) (by decide) (ha := ⟨by decide, rfl⟩) (hb := ⟨by decide, rfl⟩) (hy := ⟨by decide, rfl⟩)
  rw [hk, hr, ← c_main_v638__main_v2102 hag hel, ← c_main_v641__main_v2105 hag hel]

theorem c_main_v643__main_v2107 : StableHlo.after Cert.KernelIdeal.Hand.KOps (Cert.KernelIdeal.Hand.Wl (F := Ideal) m ρ c) (Proc.devRef .tc Cert.KernelIdeal.main_v643) = StableHlo.after (Cert.ReferenceIdeal.Hand.ops (F := Ideal)) (StableHlo.launchContents m' c) (Proc.devRef .tc Cert.ReferenceIdeal.main_v2107) := by
  have hk := StableHlo.Ascending.eq_unary Cert.KernelIdeal.Hand.KOps_asc (Cert.KernelIdeal.Hand.Wl m ρ c) (Cert.KernelIdeal.Hand.mem_KOps_st7 (Cert.KernelIdeal.Hand.mem_st_7_50 (List.getElem_mem (l := Cert.KernelIdeal.GenP.hostOps7_50 (F := Ideal)) (n := 97) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part42 (List.getElem_mem (l := Cert.ReferenceIdeal.Hand.ops_part42 (F := Ideal)) (n := 50) (by decide))) rfl rfl (by decide) (hx := ⟨by decide, rfl⟩) (hy := ⟨by decide, rfl⟩)
  rw [hk, hr, ← c_main_v642__main_v2106 hag hel]

theorem c_main_v644__main_v2108 : StableHlo.after Cert.KernelIdeal.Hand.KOps (Cert.KernelIdeal.Hand.Wl (F := Ideal) m ρ c) (Proc.devRef .tc Cert.KernelIdeal.main_v644) = StableHlo.after (Cert.ReferenceIdeal.Hand.ops (F := Ideal)) (StableHlo.launchContents m' c) (Proc.devRef .tc Cert.ReferenceIdeal.main_v2108) := by
  have hk := StableHlo.Ascending.eq_unary Cert.KernelIdeal.Hand.KOps_asc (Cert.KernelIdeal.Hand.Wl m ρ c) (Cert.KernelIdeal.Hand.mem_KOps_st7 (Cert.KernelIdeal.Hand.mem_st_7_50 (List.getElem_mem (l := Cert.KernelIdeal.GenP.hostOps7_50 (F := Ideal)) (n := 98) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part42 (List.getElem_mem (l := Cert.ReferenceIdeal.Hand.ops_part42 (F := Ideal)) (n := 51) (by decide))) rfl rfl (by decide) (hx := ⟨by decide, rfl⟩) (hy := ⟨by decide, rfl⟩)
  rw [hk, hr, ← c_main_v643__main_v2107 hag hel]

theorem c_main_cst_121__main_cst_445 : StableHlo.after Cert.KernelIdeal.Hand.KOps (Cert.KernelIdeal.Hand.Wl (F := Ideal) m ρ c) (Proc.devRef .tc Cert.KernelIdeal.main_cst_121) = StableHlo.after (Cert.ReferenceIdeal.Hand.ops (F := Ideal)) (StableHlo.launchContents m' c) (Proc.devRef .tc Cert.ReferenceIdeal.main_cst_445) := by
  have hk := StableHlo.Ascending.eq_nullary Cert.KernelIdeal.Hand.KOps_asc (Cert.KernelIdeal.Hand.Wl m ρ c) (Cert.KernelIdeal.Hand.mem_KOps_st7 (Cert.KernelIdeal.Hand.mem_st_7_50 (List.getElem_mem (l := Cert.KernelIdeal.GenP.hostOps7_50 (F := Ideal)) (n := 99) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part42 (List.getElem_mem (l := Cert.ReferenceIdeal.Hand.ops_part42 (F := Ideal)) (n := 52) (by decide))) rfl (hy := ⟨by decide, rfl⟩)
  rw [hk, hr]

theorem c_main_v645__main_v2109 : StableHlo.after Cert.KernelIdeal.Hand.KOps (Cert.KernelIdeal.Hand.Wl (F := Ideal) m ρ c) (Proc.devRef .tc Cert.KernelIdeal.main_v645) = StableHlo.after (Cert.ReferenceIdeal.Hand.ops (F := Ideal)) (StableHlo.launchContents m' c) (Proc.devRef .tc Cert.ReferenceIdeal.main_v2109) := by
  have hk := StableHlo.Ascending.eq_unary Cert.KernelIdeal.Hand.KOps_asc (Cert.KernelIdeal.Hand.Wl m ρ c) (Cert.KernelIdeal.Hand.mem_KOps_st7 (Cert.KernelIdeal.Hand.mem_st_7_50 (List.getElem_mem (l := Cert.KernelIdeal.GenP.hostOps7_50 (F := Ideal)) (n := 100) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part42 (List.getElem_mem (l := Cert.ReferenceIdeal.Hand.ops_part42 (F := Ideal)) (n := 53) (by decide))) rfl rfl (by decide) (hx := ⟨by decide, rfl⟩) (hy := ⟨by decide, rfl⟩)
  rw [hk, hr, ← c_main_cst_121__main_cst_445 hag hel]

theorem c_main_v646__main_v2110 : StableHlo.after Cert.KernelIdeal.Hand.KOps (Cert.KernelIdeal.Hand.Wl (F := Ideal) m ρ c) (Proc.devRef .tc Cert.KernelIdeal.main_v646) = StableHlo.after (Cert.ReferenceIdeal.Hand.ops (F := Ideal)) (StableHlo.launchContents m' c) (Proc.devRef .tc Cert.ReferenceIdeal.main_v2110) := by
  have hk := StableHlo.Ascending.eq_binary Cert.KernelIdeal.Hand.KOps_asc (Cert.KernelIdeal.Hand.Wl m ρ c) (Cert.KernelIdeal.Hand.mem_KOps_st7 (Cert.KernelIdeal.Hand.mem_st_7_50 (List.getElem_mem (l := Cert.KernelIdeal.GenP.hostOps7_50 (F := Ideal)) (n := 101) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part42 (List.getElem_mem (l := Cert.ReferenceIdeal.Hand.ops_part42 (F := Ideal)) (n := 54) (by decide))) rfl rfl rfl (by decide) (by decide) (ha := ⟨by decide, rfl⟩) (hb := ⟨by decide, rfl⟩) (hy := ⟨by decide, rfl⟩)
  rw [hk, hr, ← c_main_v645__main_v2109 hag hel, ← c_main_v644__main_v2108 hag hel]

theorem c_main_cst_122__main_cst_446 : StableHlo.after Cert.KernelIdeal.Hand.KOps (Cert.KernelIdeal.Hand.Wl (F := Ideal) m ρ c) (Proc.devRef .tc Cert.KernelIdeal.main_cst_122) = StableHlo.after (Cert.ReferenceIdeal.Hand.ops (F := Ideal)) (StableHlo.launchContents m' c) (Proc.devRef .tc Cert.ReferenceIdeal.main_cst_446) := by
  have hk := StableHlo.Ascending.eq_nullary Cert.KernelIdeal.Hand.KOps_asc (Cert.KernelIdeal.Hand.Wl m ρ c) (Cert.KernelIdeal.Hand.mem_KOps_st7 (Cert.KernelIdeal.Hand.mem_st_7_50 (List.getElem_mem (l := Cert.KernelIdeal.GenP.hostOps7_50 (F := Ideal)) (n := 102) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part42 (List.getElem_mem (l := Cert.ReferenceIdeal.Hand.ops_part42 (F := Ideal)) (n := 55) (by decide))) rfl (hy := ⟨by decide, rfl⟩)
  rw [hk, hr]

theorem c_main_v647__main_v2111 : StableHlo.after Cert.KernelIdeal.Hand.KOps (Cert.KernelIdeal.Hand.Wl (F := Ideal) m ρ c) (Proc.devRef .tc Cert.KernelIdeal.main_v647) = StableHlo.after (Cert.ReferenceIdeal.Hand.ops (F := Ideal)) (StableHlo.launchContents m' c) (Proc.devRef .tc Cert.ReferenceIdeal.main_v2111) := by
  have hk := StableHlo.Ascending.eq_unary Cert.KernelIdeal.Hand.KOps_asc (Cert.KernelIdeal.Hand.Wl m ρ c) (Cert.KernelIdeal.Hand.mem_KOps_st7 (Cert.KernelIdeal.Hand.mem_st_7_50 (List.getElem_mem (l := Cert.KernelIdeal.GenP.hostOps7_50 (F := Ideal)) (n := 103) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part42 (List.getElem_mem (l := Cert.ReferenceIdeal.Hand.ops_part42 (F := Ideal)) (n := 56) (by decide))) rfl rfl (by decide) (hx := ⟨by decide, rfl⟩) (hy := ⟨by decide, rfl⟩)
  rw [hk, hr, ← c_main_cst_122__main_cst_446 hag hel]

theorem c_main_v648__main_v2112 : StableHlo.after Cert.KernelIdeal.Hand.KOps (Cert.KernelIdeal.Hand.Wl (F := Ideal) m ρ c) (Proc.devRef .tc Cert.KernelIdeal.main_v648) = StableHlo.after (Cert.ReferenceIdeal.Hand.ops (F := Ideal)) (StableHlo.launchContents m' c) (Proc.devRef .tc Cert.ReferenceIdeal.main_v2112) := by
  have hk := StableHlo.Ascending.eq_binary Cert.KernelIdeal.Hand.KOps_asc (Cert.KernelIdeal.Hand.Wl m ρ c) (Cert.KernelIdeal.Hand.mem_KOps_st7 (Cert.KernelIdeal.Hand.mem_st_7_50 (List.getElem_mem (l := Cert.KernelIdeal.GenP.hostOps7_50 (F := Ideal)) (n := 104) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part42 (List.getElem_mem (l := Cert.ReferenceIdeal.Hand.ops_part42 (F := Ideal)) (n := 57) (by decide))) rfl rfl rfl (by decide) (by decide) (ha := ⟨by decide, rfl⟩) (hb := ⟨by decide, rfl⟩) (hy := ⟨by decide, rfl⟩)
  rw [hk, hr, ← c_main_v647__main_v2111 hag hel, ← c_main_v646__main_v2110 hag hel]

theorem c_main_v649__main_v2113 : StableHlo.after Cert.KernelIdeal.Hand.KOps (Cert.KernelIdeal.Hand.Wl (F := Ideal) m ρ c) (Proc.devRef .tc Cert.KernelIdeal.main_v649) = StableHlo.after (Cert.ReferenceIdeal.Hand.ops (F := Ideal)) (StableHlo.launchContents m' c) (Proc.devRef .tc Cert.ReferenceIdeal.main_v2113) := by
  have hk := StableHlo.Ascending.eq_unary Cert.KernelIdeal.Hand.KOps_asc (Cert.KernelIdeal.Hand.Wl m ρ c) (Cert.KernelIdeal.Hand.mem_KOps_st7 (Cert.KernelIdeal.Hand.mem_st_7_50 (List.getElem_mem (l := Cert.KernelIdeal.GenP.hostOps7_50 (F := Ideal)) (n := 105) (by decide)))) rfl rfl (by decide) (x := Cert.KernelIdeal.main_arg10) (y := Cert.KernelIdeal.main_v649) (f := open Cert.KernelIdeal Cert.KernelIdeal.Gen in (extractStridedSlice S1x16x16 ![1, 0, 0] · slices_S3x16x16_S1x16x16_1_0_0)) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part42 (List.getElem_mem (l := Cert.ReferenceIdeal.Hand.ops_part42 (F := Ideal)) (n := 58) (by decide))) rfl rfl (by decide) (x := Cert.ReferenceIdeal.main_arg10) (y := Cert.ReferenceIdeal.main_v2113) (f := open Cert.ReferenceIdeal Cert.ReferenceIdeal.Gen in (extractStridedSlice S1x16x16 ![1, 0, 0] · slices_S3x16x16_S1x16x16_1_0_0)) (hx := ⟨by decide, rfl⟩) (hy := ⟨by decide, rfl⟩)
  rw [hk, hr, ← c_main_arg10__main_arg10 hag hel]

theorem c_main_v650__main_v2114 : StableHlo.after Cert.KernelIdeal.Hand.KOps (Cert.KernelIdeal.Hand.Wl (F := Ideal) m ρ c) (Proc.devRef .tc Cert.KernelIdeal.main_v650) = StableHlo.after (Cert.ReferenceIdeal.Hand.ops (F := Ideal)) (StableHlo.launchContents m' c) (Proc.devRef .tc Cert.ReferenceIdeal.main_v2114) := by
  have hk := StableHlo.Ascending.eq_reshape Cert.KernelIdeal.Hand.KOps_asc (Cert.KernelIdeal.Hand.Wl m ρ c) (Cert.KernelIdeal.Hand.mem_KOps_st7 (Cert.KernelIdeal.Hand.mem_st_7_50 (List.getElem_mem (l := Cert.KernelIdeal.GenP.hostOps7_50 (F := Ideal)) (n := 106) (by decide)))) rfl rfl (by decide) (x := Cert.KernelIdeal.main_v649) (y := Cert.KernelIdeal.main_v650) (he := rfl) (hn := Cert.KernelIdeal.Gen.shapeCasts_S1x16x16_S16x16) (hx := ⟨by decide, rfl⟩) (hy := ⟨by decide, rfl⟩)
  have hr := StableHlo.Ascending.eq_reshape (Cert.ReferenceIdeal.Hand.ops_asc (F := Ideal)) (StableHlo.launchContents m' c) (Cert.ReferenceIdeal.Hand.mem_ops_part42 (List.getElem_mem (l := Cert.ReferenceIdeal.Hand.ops_part42 (F := Ideal)) (n := 59) (by decide))) rfl rfl (by decide) (x := Cert.ReferenceIdeal.main_v2113) (y := Cert.ReferenceIdeal.main_v2114) (he := rfl) (hn := Cert.ReferenceIdeal.Gen.shapeCasts_S1x16x16_S16x16) (hx := ⟨by decide, rfl⟩) (hy := ⟨by decide, rfl⟩)
  rw [hk, hr, ← c_main_v649__main_v2113 hag hel]
  rfl

theorem c_main_v651__main_v2115 : StableHlo.after Cert.KernelIdeal.Hand.KOps (Cert.KernelIdeal.Hand.Wl (F := Ideal) m ρ c) (Proc.devRef .tc Cert.KernelIdeal.main_v651) = StableHlo.after (Cert.ReferenceIdeal.Hand.ops (F := Ideal)) (StableHlo.launchContents m' c) (Proc.devRef .tc Cert.ReferenceIdeal.main_v2115) := by
  have hk := StableHlo.Ascending.eq_binary Cert.KernelIdeal.Hand.KOps_asc (Cert.KernelIdeal.Hand.Wl m ρ c) (Cert.KernelIdeal.Hand.mem_KOps_st7 (Cert.KernelIdeal.Hand.mem_st_7_50 (List.getElem_mem (l := Cert.KernelIdeal.GenP.hostOps7_50 (F := Ideal)) (n := 107) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part42 (List.getElem_mem (l := Cert.ReferenceIdeal.Hand.ops_part42 (F := Ideal)) (n := 60) (by decide))) rfl rfl rfl (by decide) (by decide) (ha := ⟨by decide, rfl⟩) (hb := ⟨by decide, rfl⟩) (hy := ⟨by decide, rfl⟩)
  rw [hk, hr, ← c_main_v650__main_v2114 hag hel, ← c_main_v635__main_v1976 hag hel]
  rfl

theorem c_main_v652__main_v2116 : StableHlo.after Cert.KernelIdeal.Hand.KOps (Cert.KernelIdeal.Hand.Wl (F := Ideal) m ρ c) (Proc.devRef .tc Cert.KernelIdeal.main_v652) = StableHlo.after (Cert.ReferenceIdeal.Hand.ops (F := Ideal)) (StableHlo.launchContents m' c) (Proc.devRef .tc Cert.ReferenceIdeal.main_v2116) := by
  have hk := StableHlo.Ascending.eq_unary Cert.KernelIdeal.Hand.KOps_asc (Cert.KernelIdeal.Hand.Wl m ρ c) (Cert.KernelIdeal.Hand.mem_KOps_st7 (Cert.KernelIdeal.Hand.mem_st_7_50 (List.getElem_mem (l := Cert.KernelIdeal.GenP.hostOps7_50 (F := Ideal)) (n := 108) (by decide)))) rfl rfl (by decide) (x := Cert.KernelIdeal.main_arg11) (y := Cert.KernelIdeal.main_v652) (f := open Cert.KernelIdeal Cert.KernelIdeal.Gen in (extractStridedSlice S1x16x16 ![1, 0, 0] · slices_S3x16x16_S1x16x16_1_0_0)) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part42 (List.getElem_mem (l := Cert.ReferenceIdeal.Hand.ops_part42 (F := Ideal)) (n := 61) (by decide))) rfl rfl (by decide) (x := Cert.ReferenceIdeal.main_arg11) (y := Cert.ReferenceIdeal.main_v2116) (f := open Cert.ReferenceIdeal Cert.ReferenceIdeal.Gen in (extractStridedSlice S1x16x16 ![1, 0, 0] · slices_S3x16x16_S1x16x16_1_0_0)) (hx := ⟨by decide, rfl⟩) (hy := ⟨by decide, rfl⟩)
  rw [hk, hr, ← c_main_arg11__main_arg11 hag hel]

theorem c_main_v653__main_v2117 : StableHlo.after Cert.KernelIdeal.Hand.KOps (Cert.KernelIdeal.Hand.Wl (F := Ideal) m ρ c) (Proc.devRef .tc Cert.KernelIdeal.main_v653) = StableHlo.after (Cert.ReferenceIdeal.Hand.ops (F := Ideal)) (StableHlo.launchContents m' c) (Proc.devRef .tc Cert.ReferenceIdeal.main_v2117) := by
  have hk := StableHlo.Ascending.eq_reshape Cert.KernelIdeal.Hand.KOps_asc (Cert.KernelIdeal.Hand.Wl m ρ c) (Cert.KernelIdeal.Hand.mem_KOps_st7 (Cert.KernelIdeal.Hand.mem_st_7_50 (List.getElem_mem (l := Cert.KernelIdeal.GenP.hostOps7_50 (F := Ideal)) (n := 109) (by decide)))) rfl rfl (by decide) (x := Cert.KernelIdeal.main_v652) (y := Cert.KernelIdeal.main_v653) (he := rfl) (hn := Cert.KernelIdeal.Gen.shapeCasts_S1x16x16_S16x16) (hx := ⟨by decide, rfl⟩) (hy := ⟨by decide, rfl⟩)
  have hr := StableHlo.Ascending.eq_reshape (Cert.ReferenceIdeal.Hand.ops_asc (F := Ideal)) (StableHlo.launchContents m' c) (Cert.ReferenceIdeal.Hand.mem_ops_part42 (List.getElem_mem (l := Cert.ReferenceIdeal.Hand.ops_part42 (F := Ideal)) (n := 62) (by decide))) rfl rfl (by decide) (x := Cert.ReferenceIdeal.main_v2116) (y := Cert.ReferenceIdeal.main_v2117) (he := rfl) (hn := Cert.ReferenceIdeal.Gen.shapeCasts_S1x16x16_S16x16) (hx := ⟨by decide, rfl⟩) (hy := ⟨by decide, rfl⟩)
  rw [hk, hr, ← c_main_v652__main_v2116 hag hel]
  rfl

theorem c_main_v654__main_v2118 : StableHlo.after Cert.KernelIdeal.Hand.KOps (Cert.KernelIdeal.Hand.Wl (F := Ideal) m ρ c) (Proc.devRef .tc Cert.KernelIdeal.main_v654) = StableHlo.after (Cert.ReferenceIdeal.Hand.ops (F := Ideal)) (StableHlo.launchContents m' c) (Proc.devRef .tc Cert.ReferenceIdeal.main_v2118) := by
  have hk := StableHlo.Ascending.eq_binary Cert.KernelIdeal.Hand.KOps_asc (Cert.KernelIdeal.Hand.Wl m ρ c) (Cert.KernelIdeal.Hand.mem_KOps_st7 (Cert.KernelIdeal.Hand.mem_st_7_50 (List.getElem_mem (l := Cert.KernelIdeal.GenP.hostOps7_50 (F := Ideal)) (n := 110) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part42 (List.getElem_mem (l := Cert.ReferenceIdeal.Hand.ops_part42 (F := Ideal)) (n := 63) (by decide))) rfl rfl rfl (by decide) (by decide) (ha := ⟨by decide, rfl⟩) (hb := ⟨by decide, rfl⟩) (hy := ⟨by decide, rfl⟩)
  rw [hk, hr, ← c_main_v653__main_v2117 hag hel, ← c_main_v635__main_v1976 hag hel]
  rfl

theorem c_main_v655__main_v2119 : StableHlo.after Cert.KernelIdeal.Hand.KOps (Cert.KernelIdeal.Hand.Wl (F := Ideal) m ρ c) (Proc.devRef .tc Cert.KernelIdeal.main_v655) = StableHlo.after (Cert.ReferenceIdeal.Hand.ops (F := Ideal)) (StableHlo.launchContents m' c) (Proc.devRef .tc Cert.ReferenceIdeal.main_v2119) := by
  have hk := StableHlo.Ascending.eq_binary Cert.KernelIdeal.Hand.KOps_asc (Cert.KernelIdeal.Hand.Wl m ρ c) (Cert.KernelIdeal.Hand.mem_KOps_st7 (Cert.KernelIdeal.Hand.mem_st_7_50 (List.getElem_mem (l := Cert.KernelIdeal.GenP.hostOps7_50 (F := Ideal)) (n := 111) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part42 (List.getElem_mem (l := Cert.ReferenceIdeal.Hand.ops_part42 (F := Ideal)) (n := 64) (by decide))) rfl rfl rfl (by decide) (by decide) (ha := ⟨by decide, rfl⟩) (hb := ⟨by decide, rfl⟩) (hy := ⟨by decide, rfl⟩)
  rw [hk, hr, ← c_main_v651__main_v2115 hag hel, ← c_main_v654__main_v2118 hag hel]

theorem c_main_v656__main_v2120 : StableHlo.after Cert.KernelIdeal.Hand.KOps (Cert.KernelIdeal.Hand.Wl (F := Ideal) m ρ c) (Proc.devRef .tc Cert.KernelIdeal.main_v656) = StableHlo.after (Cert.ReferenceIdeal.Hand.ops (F := Ideal)) (StableHlo.launchContents m' c) (Proc.devRef .tc Cert.ReferenceIdeal.main_v2120) := by
  have hk := StableHlo.Ascending.eq_unary Cert.KernelIdeal.Hand.KOps_asc (Cert.KernelIdeal.Hand.Wl m ρ c) (Cert.KernelIdeal.Hand.mem_KOps_st7 (Cert.KernelIdeal.Hand.mem_st_7_50 (List.getElem_mem (l := Cert.KernelIdeal.GenP.hostOps7_50 (F := Ideal)) (n := 112) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part42 (List.getElem_mem (l := Cert.ReferenceIdeal.Hand.ops_part42 (F := Ideal)) (n := 65) (by decide))) rfl rfl (by decide) (hx := ⟨by decide, rfl⟩) (hy := ⟨by decide, rfl⟩)
  rw [hk, hr, ← c_main_v655__main_v2119 hag hel]

theorem c_main_v657__main_v2121 : StableHlo.after Cert.KernelIdeal.Hand.KOps (Cert.KernelIdeal.Hand.Wl (F := Ideal) m ρ c) (Proc.devRef .tc Cert.KernelIdeal.main_v657) = StableHlo.after (Cert.ReferenceIdeal.Hand.ops (F := Ideal)) (StableHlo.launchContents m' c) (Proc.devRef .tc Cert.ReferenceIdeal.main_v2121) := by
  have hk := StableHlo.Ascending.eq_unary Cert.KernelIdeal.Hand.KOps_asc (Cert.KernelIdeal.Hand.Wl m ρ c) (Cert.KernelIdeal.Hand.mem_KOps_st7 (Cert.KernelIdeal.Hand.mem_st_7_50 (List.getElem_mem (l := Cert.KernelIdeal.GenP.hostOps7_50 (F := Ideal)) (n := 113) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part42 (List.getElem_mem (l := Cert.ReferenceIdeal.Hand.ops_part42 (F := Ideal)) (n := 66) (by decide))) rfl rfl (by decide) (hx := ⟨by decide, rfl⟩) (hy := ⟨by decide, rfl⟩)
  rw [hk, hr, ← c_main_v656__main_v2120 hag hel]

theorem c_main_cst_123__main_cst_447 : StableHlo.after Cert.KernelIdeal.Hand.KOps (Cert.KernelIdeal.Hand.Wl (F := Ideal) m ρ c) (Proc.devRef .tc Cert.KernelIdeal.main_cst_123) = StableHlo.after (Cert.ReferenceIdeal.Hand.ops (F := Ideal)) (StableHlo.launchContents m' c) (Proc.devRef .tc Cert.ReferenceIdeal.main_cst_447) := by
  have hk := StableHlo.Ascending.eq_nullary Cert.KernelIdeal.Hand.KOps_asc (Cert.KernelIdeal.Hand.Wl m ρ c) (Cert.KernelIdeal.Hand.mem_KOps_st7 (Cert.KernelIdeal.Hand.mem_st_7_50 (List.getElem_mem (l := Cert.KernelIdeal.GenP.hostOps7_50 (F := Ideal)) (n := 114) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part42 (List.getElem_mem (l := Cert.ReferenceIdeal.Hand.ops_part42 (F := Ideal)) (n := 67) (by decide))) rfl (hy := ⟨by decide, rfl⟩)
  rw [hk, hr]

theorem c_main_v658__main_v2122 : StableHlo.after Cert.KernelIdeal.Hand.KOps (Cert.KernelIdeal.Hand.Wl (F := Ideal) m ρ c) (Proc.devRef .tc Cert.KernelIdeal.main_v658) = StableHlo.after (Cert.ReferenceIdeal.Hand.ops (F := Ideal)) (StableHlo.launchContents m' c) (Proc.devRef .tc Cert.ReferenceIdeal.main_v2122) := by
  have hk := StableHlo.Ascending.eq_unary Cert.KernelIdeal.Hand.KOps_asc (Cert.KernelIdeal.Hand.Wl m ρ c) (Cert.KernelIdeal.Hand.mem_KOps_st7 (Cert.KernelIdeal.Hand.mem_st_7_50 (List.getElem_mem (l := Cert.KernelIdeal.GenP.hostOps7_50 (F := Ideal)) (n := 115) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part42 (List.getElem_mem (l := Cert.ReferenceIdeal.Hand.ops_part42 (F := Ideal)) (n := 68) (by decide))) rfl rfl (by decide) (hx := ⟨by decide, rfl⟩) (hy := ⟨by decide, rfl⟩)
  rw [hk, hr, ← c_main_cst_123__main_cst_447 hag hel]

theorem c_main_v659__main_v2123 : StableHlo.after Cert.KernelIdeal.Hand.KOps (Cert.KernelIdeal.Hand.Wl (F := Ideal) m ρ c) (Proc.devRef .tc Cert.KernelIdeal.main_v659) = StableHlo.after (Cert.ReferenceIdeal.Hand.ops (F := Ideal)) (StableHlo.launchContents m' c) (Proc.devRef .tc Cert.ReferenceIdeal.main_v2123) := by
  have hk := StableHlo.Ascending.eq_binary Cert.KernelIdeal.Hand.KOps_asc (Cert.KernelIdeal.Hand.Wl m ρ c) (Cert.KernelIdeal.Hand.mem_KOps_st7 (Cert.KernelIdeal.Hand.mem_st_7_50 (List.getElem_mem (l := Cert.KernelIdeal.GenP.hostOps7_50 (F := Ideal)) (n := 116) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part42 (List.getElem_mem (l := Cert.ReferenceIdeal.Hand.ops_part42 (F := Ideal)) (n := 69) (by decide))) rfl rfl rfl (by decide) (by decide) (ha := ⟨by decide, rfl⟩) (hb := ⟨by decide, rfl⟩) (hy := ⟨by decide, rfl⟩)
  rw [hk, hr, ← c_main_v658__main_v2122 hag hel, ← c_main_v657__main_v2121 hag hel]

theorem c_main_cst_124__main_cst_448 : StableHlo.after Cert.KernelIdeal.Hand.KOps (Cert.KernelIdeal.Hand.Wl (F := Ideal) m ρ c) (Proc.devRef .tc Cert.KernelIdeal.main_cst_124) = StableHlo.after (Cert.ReferenceIdeal.Hand.ops (F := Ideal)) (StableHlo.launchContents m' c) (Proc.devRef .tc Cert.ReferenceIdeal.main_cst_448) := by
  have hk := StableHlo.Ascending.eq_nullary Cert.KernelIdeal.Hand.KOps_asc (Cert.KernelIdeal.Hand.Wl m ρ c) (Cert.KernelIdeal.Hand.mem_KOps_st7 (Cert.KernelIdeal.Hand.mem_st_7_50 (List.getElem_mem (l := Cert.KernelIdeal.GenP.hostOps7_50 (F := Ideal)) (n := 117) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part42 (List.getElem_mem (l := Cert.ReferenceIdeal.Hand.ops_part42 (F := Ideal)) (n := 70) (by decide))) rfl (hy := ⟨by decide, rfl⟩)
  rw [hk, hr]

theorem c_main_v660__main_v2124 : StableHlo.after Cert.KernelIdeal.Hand.KOps (Cert.KernelIdeal.Hand.Wl (F := Ideal) m ρ c) (Proc.devRef .tc Cert.KernelIdeal.main_v660) = StableHlo.after (Cert.ReferenceIdeal.Hand.ops (F := Ideal)) (StableHlo.launchContents m' c) (Proc.devRef .tc Cert.ReferenceIdeal.main_v2124) := by
  have hk := StableHlo.Ascending.eq_unary Cert.KernelIdeal.Hand.KOps_asc (Cert.KernelIdeal.Hand.Wl m ρ c) (Cert.KernelIdeal.Hand.mem_KOps_st7 (Cert.KernelIdeal.Hand.mem_st_7_50 (List.getElem_mem (l := Cert.KernelIdeal.GenP.hostOps7_50 (F := Ideal)) (n := 118) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part42 (List.getElem_mem (l := Cert.ReferenceIdeal.Hand.ops_part42 (F := Ideal)) (n := 71) (by decide))) rfl rfl (by decide) (hx := ⟨by decide, rfl⟩) (hy := ⟨by decide, rfl⟩)
  rw [hk, hr, ← c_main_cst_124__main_cst_448 hag hel]

theorem c_main_v661__main_v2125 : StableHlo.after Cert.KernelIdeal.Hand.KOps (Cert.KernelIdeal.Hand.Wl (F := Ideal) m ρ c) (Proc.devRef .tc Cert.KernelIdeal.main_v661) = StableHlo.after (Cert.ReferenceIdeal.Hand.ops (F := Ideal)) (StableHlo.launchContents m' c) (Proc.devRef .tc Cert.ReferenceIdeal.main_v2125) := by
  have hk := StableHlo.Ascending.eq_binary Cert.KernelIdeal.Hand.KOps_asc (Cert.KernelIdeal.Hand.Wl m ρ c) (Cert.KernelIdeal.Hand.mem_KOps_st7 (Cert.KernelIdeal.Hand.mem_st_7_50 (List.getElem_mem (l := Cert.KernelIdeal.GenP.hostOps7_50 (F := Ideal)) (n := 119) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part42 (List.getElem_mem (l := Cert.ReferenceIdeal.Hand.ops_part42 (F := Ideal)) (n := 72) (by decide))) rfl rfl rfl (by decide) (by decide) (ha := ⟨by decide, rfl⟩) (hb := ⟨by decide, rfl⟩) (hy := ⟨by decide, rfl⟩)
  rw [hk, hr, ← c_main_v660__main_v2124 hag hel, ← c_main_v659__main_v2123 hag hel]

theorem c_main_v662__main_v2126 : StableHlo.after Cert.KernelIdeal.Hand.KOps (Cert.KernelIdeal.Hand.Wl (F := Ideal) m ρ c) (Proc.devRef .tc Cert.KernelIdeal.main_v662) = StableHlo.after (Cert.ReferenceIdeal.Hand.ops (F := Ideal)) (StableHlo.launchContents m' c) (Proc.devRef .tc Cert.ReferenceIdeal.main_v2126) := by
  have hk := StableHlo.Ascending.eq_unary Cert.KernelIdeal.Hand.KOps_asc (Cert.KernelIdeal.Hand.Wl m ρ c) (Cert.KernelIdeal.Hand.mem_KOps_st7 (Cert.KernelIdeal.Hand.mem_st_7_50 (List.getElem_mem (l := Cert.KernelIdeal.GenP.hostOps7_50 (F := Ideal)) (n := 120) (by decide)))) rfl rfl (by decide) (x := Cert.KernelIdeal.main_arg10) (y := Cert.KernelIdeal.main_v662) (f := open Cert.KernelIdeal Cert.KernelIdeal.Gen in (extractStridedSlice S1x16x16 ![2, 0, 0] · slices_S3x16x16_S1x16x16_2_0_0)) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part42 (List.getElem_mem (l := Cert.ReferenceIdeal.Hand.ops_part42 (F := Ideal)) (n := 73) (by decide))) rfl rfl (by decide) (x := Cert.ReferenceIdeal.main_arg10) (y := Cert.ReferenceIdeal.main_v2126) (f := open Cert.ReferenceIdeal Cert.ReferenceIdeal.Gen in (extractStridedSlice S1x16x16 ![2, 0, 0] · slices_S3x16x16_S1x16x16_2_0_0)) (hx := ⟨by decide, rfl⟩) (hy := ⟨by decide, rfl⟩)
  rw [hk, hr, ← c_main_arg10__main_arg10 hag hel]

theorem c_main_v663__main_v2127 : StableHlo.after Cert.KernelIdeal.Hand.KOps (Cert.KernelIdeal.Hand.Wl (F := Ideal) m ρ c) (Proc.devRef .tc Cert.KernelIdeal.main_v663) = StableHlo.after (Cert.ReferenceIdeal.Hand.ops (F := Ideal)) (StableHlo.launchContents m' c) (Proc.devRef .tc Cert.ReferenceIdeal.main_v2127) := by
  have hk := StableHlo.Ascending.eq_reshape Cert.KernelIdeal.Hand.KOps_asc (Cert.KernelIdeal.Hand.Wl m ρ c) (Cert.KernelIdeal.Hand.mem_KOps_st7 (Cert.KernelIdeal.Hand.mem_st_7_50 (List.getElem_mem (l := Cert.KernelIdeal.GenP.hostOps7_50 (F := Ideal)) (n := 121) (by decide)))) rfl rfl (by decide) (x := Cert.KernelIdeal.main_v662) (y := Cert.KernelIdeal.main_v663) (he := rfl) (hn := Cert.KernelIdeal.Gen.shapeCasts_S1x16x16_S16x16) (hx := ⟨by decide, rfl⟩) (hy := ⟨by decide, rfl⟩)
  have hr := StableHlo.Ascending.eq_reshape (Cert.ReferenceIdeal.Hand.ops_asc (F := Ideal)) (StableHlo.launchContents m' c) (Cert.ReferenceIdeal.Hand.mem_ops_part42 (List.getElem_mem (l := Cert.ReferenceIdeal.Hand.ops_part42 (F := Ideal)) (n := 74) (by decide))) rfl rfl (by decide) (x := Cert.ReferenceIdeal.main_v2126) (y := Cert.ReferenceIdeal.main_v2127) (he := rfl) (hn := Cert.ReferenceIdeal.Gen.shapeCasts_S1x16x16_S16x16) (hx := ⟨by decide, rfl⟩) (hy := ⟨by decide, rfl⟩)
  rw [hk, hr, ← c_main_v662__main_v2126 hag hel]
  rfl

theorem c_main_v664__main_v2128 : StableHlo.after Cert.KernelIdeal.Hand.KOps (Cert.KernelIdeal.Hand.Wl (F := Ideal) m ρ c) (Proc.devRef .tc Cert.KernelIdeal.main_v664) = StableHlo.after (Cert.ReferenceIdeal.Hand.ops (F := Ideal)) (StableHlo.launchContents m' c) (Proc.devRef .tc Cert.ReferenceIdeal.main_v2128) := by
  have hk := StableHlo.Ascending.eq_binary Cert.KernelIdeal.Hand.KOps_asc (Cert.KernelIdeal.Hand.Wl m ρ c) (Cert.KernelIdeal.Hand.mem_KOps_st7 (Cert.KernelIdeal.Hand.mem_st_7_50 (List.getElem_mem (l := Cert.KernelIdeal.GenP.hostOps7_50 (F := Ideal)) (n := 122) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part42 (List.getElem_mem (l := Cert.ReferenceIdeal.Hand.ops_part42 (F := Ideal)) (n := 75) (by decide))) rfl rfl rfl (by decide) (by decide) (ha := ⟨by decide, rfl⟩) (hb := ⟨by decide, rfl⟩) (hy := ⟨by decide, rfl⟩)
  rw [hk, hr, ← c_main_v663__main_v2127 hag hel, ← c_main_v635__main_v1976 hag hel]
  rfl

theorem c_main_v665__main_v2129 : StableHlo.after Cert.KernelIdeal.Hand.KOps (Cert.KernelIdeal.Hand.Wl (F := Ideal) m ρ c) (Proc.devRef .tc Cert.KernelIdeal.main_v665) = StableHlo.after (Cert.ReferenceIdeal.Hand.ops (F := Ideal)) (StableHlo.launchContents m' c) (Proc.devRef .tc Cert.ReferenceIdeal.main_v2129) := by
  have hk := StableHlo.Ascending.eq_unary Cert.KernelIdeal.Hand.KOps_asc (Cert.KernelIdeal.Hand.Wl m ρ c) (Cert.KernelIdeal.Hand.mem_KOps_st7 (Cert.KernelIdeal.Hand.mem_st_7_50 (List.getElem_mem (l := Cert.KernelIdeal.GenP.hostOps7_50 (F := Ideal)) (n := 123) (by decide)))) rfl rfl (by decide) (x := Cert.KernelIdeal.main_arg11) (y := Cert.KernelIdeal.main_v665) (f := open Cert.KernelIdeal Cert.KernelIdeal.Gen in (extractStridedSlice S1x16x16 ![2, 0, 0] · slices_S3x16x16_S1x16x16_2_0_0)) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part43 (List.getElem_mem (l := Cert.ReferenceIdeal.Hand.ops_part43 (F := Ideal)) (n := 0) (by decide))) rfl rfl (by decide) (x := Cert.ReferenceIdeal.main_arg11) (y := Cert.ReferenceIdeal.main_v2129) (f := open Cert.ReferenceIdeal Cert.ReferenceIdeal.Gen in (extractStridedSlice S1x16x16 ![2, 0, 0] · slices_S3x16x16_S1x16x16_2_0_0)) (hx := ⟨by decide, rfl⟩) (hy := ⟨by decide, rfl⟩)
  rw [hk, hr, ← c_main_arg11__main_arg11 hag hel]

theorem c_main_v666__main_v2130 : StableHlo.after Cert.KernelIdeal.Hand.KOps (Cert.KernelIdeal.Hand.Wl (F := Ideal) m ρ c) (Proc.devRef .tc Cert.KernelIdeal.main_v666) = StableHlo.after (Cert.ReferenceIdeal.Hand.ops (F := Ideal)) (StableHlo.launchContents m' c) (Proc.devRef .tc Cert.ReferenceIdeal.main_v2130) := by
  have hk := StableHlo.Ascending.eq_reshape Cert.KernelIdeal.Hand.KOps_asc (Cert.KernelIdeal.Hand.Wl m ρ c) (Cert.KernelIdeal.Hand.mem_KOps_st7 (Cert.KernelIdeal.Hand.mem_st_7_50 (List.getElem_mem (l := Cert.KernelIdeal.GenP.hostOps7_50 (F := Ideal)) (n := 124) (by decide)))) rfl rfl (by decide) (x := Cert.KernelIdeal.main_v665) (y := Cert.KernelIdeal.main_v666) (he := rfl) (hn := Cert.KernelIdeal.Gen.shapeCasts_S1x16x16_S16x16) (hx := ⟨by decide, rfl⟩) (hy := ⟨by decide, rfl⟩)
  have hr := StableHlo.Ascending.eq_reshape (Cert.ReferenceIdeal.Hand.ops_asc (F := Ideal)) (StableHlo.launchContents m' c) (Cert.ReferenceIdeal.Hand.mem_ops_part43 (List.getElem_mem (l := Cert.ReferenceIdeal.Hand.ops_part43 (F := Ideal)) (n := 1) (by decide))) rfl rfl (by decide) (x := Cert.ReferenceIdeal.main_v2129) (y := Cert.ReferenceIdeal.main_v2130) (he := rfl) (hn := Cert.ReferenceIdeal.Gen.shapeCasts_S1x16x16_S16x16) (hx := ⟨by decide, rfl⟩) (hy := ⟨by decide, rfl⟩)
  rw [hk, hr, ← c_main_v665__main_v2129 hag hel]
  rfl

theorem c_main_v667__main_v2131 : StableHlo.after Cert.KernelIdeal.Hand.KOps (Cert.KernelIdeal.Hand.Wl (F := Ideal) m ρ c) (Proc.devRef .tc Cert.KernelIdeal.main_v667) = StableHlo.after (Cert.ReferenceIdeal.Hand.ops (F := Ideal)) (StableHlo.launchContents m' c) (Proc.devRef .tc Cert.ReferenceIdeal.main_v2131) := by
  have hk := StableHlo.Ascending.eq_binary Cert.KernelIdeal.Hand.KOps_asc (Cert.KernelIdeal.Hand.Wl m ρ c) (Cert.KernelIdeal.Hand.mem_KOps_st7 (Cert.KernelIdeal.Hand.mem_st_7_50 (List.getElem_mem (l := Cert.KernelIdeal.GenP.hostOps7_50 (F := Ideal)) (n := 125) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part43 (List.getElem_mem (l := Cert.ReferenceIdeal.Hand.ops_part43 (F := Ideal)) (n := 2) (by decide))) rfl rfl rfl (by decide) (by decide) (ha := ⟨by decide, rfl⟩) (hb := ⟨by decide, rfl⟩) (hy := ⟨by decide, rfl⟩)
  rw [hk, hr, ← c_main_v661__main_v2125 hag hel, ← c_main_v635__main_v1976 hag hel]

theorem c_main_v668__main_v2132 : StableHlo.after Cert.KernelIdeal.Hand.KOps (Cert.KernelIdeal.Hand.Wl (F := Ideal) m ρ c) (Proc.devRef .tc Cert.KernelIdeal.main_v668) = StableHlo.after (Cert.ReferenceIdeal.Hand.ops (F := Ideal)) (StableHlo.launchContents m' c) (Proc.devRef .tc Cert.ReferenceIdeal.main_v2132) := by
  have hk := StableHlo.Ascending.eq_binary Cert.KernelIdeal.Hand.KOps_asc (Cert.KernelIdeal.Hand.Wl m ρ c) (Cert.KernelIdeal.Hand.mem_KOps_st7 (Cert.KernelIdeal.Hand.mem_st_7_50 (List.getElem_mem (l := Cert.KernelIdeal.GenP.hostOps7_50 (F := Ideal)) (n := 126) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part43 (List.getElem_mem (l := Cert.ReferenceIdeal.Hand.ops_part43 (F := Ideal)) (n := 3) (by decide))) rfl rfl rfl (by decide) (by decide) (ha := ⟨by decide, rfl⟩) (hb := ⟨by decide, rfl⟩) (hy := ⟨by decide, rfl⟩)
  rw [hk, hr, ← c_main_v666__main_v2130 hag hel, ← c_main_v667__main_v2131 hag hel]
  rfl

theorem c_main_v669__main_v2133 : StableHlo.after Cert.KernelIdeal.Hand.KOps (Cert.KernelIdeal.Hand.Wl (F := Ideal) m ρ c) (Proc.devRef .tc Cert.KernelIdeal.main_v669) = StableHlo.after (Cert.ReferenceIdeal.Hand.ops (F := Ideal)) (StableHlo.launchContents m' c) (Proc.devRef .tc Cert.ReferenceIdeal.main_v2133) := by
  have hk := StableHlo.Ascending.eq_binary Cert.KernelIdeal.Hand.KOps_asc (Cert.KernelIdeal.Hand.Wl m ρ c) (Cert.KernelIdeal.Hand.mem_KOps_st7 (Cert.KernelIdeal.Hand.mem_st_7_50 (List.getElem_mem (l := Cert.KernelIdeal.GenP.hostOps7_50 (F := Ideal)) (n := 127) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part43 (List.getElem_mem (l := Cert.ReferenceIdeal.Hand.ops_part43 (F := Ideal)) (n := 4) (by decide))) rfl rfl rfl (by decide) (by decide) (ha := ⟨by decide, rfl⟩) (hb := ⟨by decide, rfl⟩) (hy := ⟨by decide, rfl⟩)
  rw [hk, hr, ← c_main_v664__main_v2128 hag hel, ← c_main_v668__main_v2132 hag hel]

theorem c_main_v670__main_v2134 : StableHlo.after Cert.KernelIdeal.Hand.KOps (Cert.KernelIdeal.Hand.Wl (F := Ideal) m ρ c) (Proc.devRef .tc Cert.KernelIdeal.main_v670) = StableHlo.after (Cert.ReferenceIdeal.Hand.ops (F := Ideal)) (StableHlo.launchContents m' c) (Proc.devRef .tc Cert.ReferenceIdeal.main_v2134) := by
  have hk := StableHlo.Ascending.eq_unary Cert.KernelIdeal.Hand.KOps_asc (Cert.KernelIdeal.Hand.Wl m ρ c) (Cert.KernelIdeal.Hand.mem_KOps_st7 (Cert.KernelIdeal.Hand.mem_st_7_50 (List.getElem_mem (l := Cert.KernelIdeal.GenP.hostOps7_50 (F := Ideal)) (n := 128) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part43 (List.getElem_mem (l := Cert.ReferenceIdeal.Hand.ops_part43 (F := Ideal)) (n := 5) (by decide))) rfl rfl (by decide) (hx := ⟨by decide, rfl⟩) (hy := ⟨by decide, rfl⟩)
  rw [hk, hr, ← c_main_v669__main_v2133 hag hel]

theorem c_main_cst_125__main_cst_449 : StableHlo.after Cert.KernelIdeal.Hand.KOps (Cert.KernelIdeal.Hand.Wl (F := Ideal) m ρ c) (Proc.devRef .tc Cert.KernelIdeal.main_cst_125) = StableHlo.after (Cert.ReferenceIdeal.Hand.ops (F := Ideal)) (StableHlo.launchContents m' c) (Proc.devRef .tc Cert.ReferenceIdeal.main_cst_449) := by
  have hk := StableHlo.Ascending.eq_nullary Cert.KernelIdeal.Hand.KOps_asc (Cert.KernelIdeal.Hand.Wl m ρ c) (Cert.KernelIdeal.Hand.mem_KOps_st7 (Cert.KernelIdeal.Hand.mem_st_7_50 (List.getElem_mem (l := Cert.KernelIdeal.GenP.hostOps7_50 (F := Ideal)) (n := 129) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part43 (List.getElem_mem (l := Cert.ReferenceIdeal.Hand.ops_part43 (F := Ideal)) (n := 6) (by decide))) rfl (hy := ⟨by decide, rfl⟩)
  rw [hk, hr]

theorem c_main_v671__main_v2135 : StableHlo.after Cert.KernelIdeal.Hand.KOps (Cert.KernelIdeal.Hand.Wl (F := Ideal) m ρ c) (Proc.devRef .tc Cert.KernelIdeal.main_v671) = StableHlo.after (Cert.ReferenceIdeal.Hand.ops (F := Ideal)) (StableHlo.launchContents m' c) (Proc.devRef .tc Cert.ReferenceIdeal.main_v2135) := by
  have hk := StableHlo.Ascending.eq_unary Cert.KernelIdeal.Hand.KOps_asc (Cert.KernelIdeal.Hand.Wl m ρ c) (Cert.KernelIdeal.Hand.mem_KOps_st7 (Cert.KernelIdeal.Hand.mem_st_7_50 (List.getElem_mem (l := Cert.KernelIdeal.GenP.hostOps7_50 (F := Ideal)) (n := 130) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part43 (List.getElem_mem (l := Cert.ReferenceIdeal.Hand.ops_part43 (F := Ideal)) (n := 7) (by decide))) rfl rfl (by decide) (hx := ⟨by decide, rfl⟩) (hy := ⟨by decide, rfl⟩)
  rw [hk, hr, ← c_main_cst_125__main_cst_449 hag hel]

theorem c_main_v672__main_v2136 : StableHlo.after Cert.KernelIdeal.Hand.KOps (Cert.KernelIdeal.Hand.Wl (F := Ideal) m ρ c) (Proc.devRef .tc Cert.KernelIdeal.main_v672) = StableHlo.after (Cert.ReferenceIdeal.Hand.ops (F := Ideal)) (StableHlo.launchContents m' c) (Proc.devRef .tc Cert.ReferenceIdeal.main_v2136) := by
  have hk := StableHlo.Ascending.eq_binary Cert.KernelIdeal.Hand.KOps_asc (Cert.KernelIdeal.Hand.Wl m ρ c) (Cert.KernelIdeal.Hand.mem_KOps_st7 (Cert.KernelIdeal.Hand.mem_st_7_50 (List.getElem_mem (l := Cert.KernelIdeal.GenP.hostOps7_50 (F := Ideal)) (n := 131) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part43 (List.getElem_mem (l := Cert.ReferenceIdeal.Hand.ops_part43 (F := Ideal)) (n := 8) (by decide))) rfl rfl rfl (by decide) (by decide) (ha := ⟨by decide, rfl⟩) (hb := ⟨by decide, rfl⟩) (hy := ⟨by decide, rfl⟩)
  rw [hk, hr, ← c_main_v671__main_v2135 hag hel, ← c_main_v648__main_v2112 hag hel]

theorem c_main_v673__main_v2137 : StableHlo.after Cert.KernelIdeal.Hand.KOps (Cert.KernelIdeal.Hand.Wl (F := Ideal) m ρ c) (Proc.devRef .tc Cert.KernelIdeal.main_v673) = StableHlo.after (Cert.ReferenceIdeal.Hand.ops (F := Ideal)) (StableHlo.launchContents m' c) (Proc.devRef .tc Cert.ReferenceIdeal.main_v2137) := by
  have hk := StableHlo.Ascending.eq_binary Cert.KernelIdeal.Hand.KOps_asc (Cert.KernelIdeal.Hand.Wl m ρ c) (Cert.KernelIdeal.Hand.mem_KOps_st7 (Cert.KernelIdeal.Hand.mem_st_7_50 (List.getElem_mem (l := Cert.KernelIdeal.GenP.hostOps7_50 (F := Ideal)) (n := 132) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part43 (List.getElem_mem (l := Cert.ReferenceIdeal.Hand.ops_part43 (F := Ideal)) (n := 9) (by decide))) rfl rfl rfl (by decide) (by decide) (ha := ⟨by decide, rfl⟩) (hb := ⟨by decide, rfl⟩) (hy := ⟨by decide, rfl⟩)
  rw [hk, hr, ← c_main_v672__main_v2136 hag hel, ← c_main_v635__main_v1976 hag hel]

theorem c_main_v674__main_v2138 : StableHlo.after Cert.KernelIdeal.Hand.KOps (Cert.KernelIdeal.Hand.Wl (F := Ideal) m ρ c) (Proc.devRef .tc Cert.KernelIdeal.main_v674) = StableHlo.after (Cert.ReferenceIdeal.Hand.ops (F := Ideal)) (StableHlo.launchContents m' c) (Proc.devRef .tc Cert.ReferenceIdeal.main_v2138) := by
  have hk := StableHlo.Ascending.eq_binary Cert.KernelIdeal.Hand.KOps_asc (Cert.KernelIdeal.Hand.Wl m ρ c) (Cert.KernelIdeal.Hand.mem_KOps_st7 (Cert.KernelIdeal.Hand.mem_st_7_50 (List.getElem_mem (l := Cert.KernelIdeal.GenP.hostOps7_50 (F := Ideal)) (n := 133) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part43 (List.getElem_mem (l := Cert.ReferenceIdeal.Hand.ops_part43 (F := Ideal)) (n := 10) (by decide))) rfl rfl rfl (by decide) (by decide) (ha := ⟨by decide, rfl⟩) (hb := ⟨by decide, rfl⟩) (hy := ⟨by decide, rfl⟩)
  rw [hk, hr, ← c_main_v648__main_v2112 hag hel, ← c_main_v670__main_v2134 hag hel]

end Cert.Value

end
-- ==== Proof.Val.C019.lean ====
/- Steps C019 of the value claim's chain: for each listed pair, the kernel program's buffer and its reference twin hold equal contents at the two programs' final
   valuations — the two operations are the same function (read off the two operation lists) of operands already paired. A table; written by: bun scratch/corr.js 60 -/
import proofs.«146970_j35948876268088_1_alg».proof.Proof.Val.Seed
import proofs.«146970_j35948876268088_1_alg».proof.Proof.KI.Dots
import Mathlib.Tactic.FinCases
import proofs.«146970_j35948876268088_1_alg».proof.Proof.Val.C000
import proofs.«146970_j35948876268088_1_alg».proof.Proof.Val.C016
import proofs.«146970_j35948876268088_1_alg».proof.Proof.Val.C018

set_option maxRecDepth 16384

noncomputable section

namespace Cert.Value

open Idealize.ShloMosaic Idealize.ShloMosaic.TcCoe Idealize.SL.Sem

variable {m : (ℓ : Loc Cert.KernelIdeal.nD Cert.KernelIdeal.τ Cert.KernelIdeal.sig) → Buf (Elt Ideal) ℓ} {ρ : Dev Cert.KernelIdeal.nD → PrngReg}
  {m' : (ℓ : Loc Cert.ReferenceIdeal.nD Cert.ReferenceIdeal.τ Cert.ReferenceIdeal.sig) → Buf (Elt Ideal) ℓ} {c : Dev Cert.KernelIdeal.nD} (hag : Agree m m') (hel : Els m' c)
include hag hel

theorem c_main_v675__main_v2139 : StableHlo.after Cert.KernelIdeal.Hand.KOps (Cert.KernelIdeal.Hand.Wl (F := Ideal) m ρ c) (Proc.devRef .tc Cert.KernelIdeal.main_v675) = StableHlo.after (Cert.ReferenceIdeal.Hand.ops (F := Ideal)) (StableHlo.launchContents m' c) (Proc.devRef .tc Cert.ReferenceIdeal.main_v2139) := by
  have hk := StableHlo.Ascending.eq_binary Cert.KernelIdeal.Hand.KOps_asc (Cert.KernelIdeal.Hand.Wl m ρ c) (Cert.KernelIdeal.Hand.mem_KOps_st7 (Cert.KernelIdeal.Hand.mem_st_7_50 (List.getElem_mem (l := Cert.KernelIdeal.GenP.hostOps7_50 (F := Ideal)) (n := 134) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part43 (List.getElem_mem (l := Cert.ReferenceIdeal.Hand.ops_part43 (F := Ideal)) (n := 11) (by decide))) rfl rfl rfl (by decide) (by decide) (ha := ⟨by decide, rfl⟩) (hb := ⟨by decide, rfl⟩) (hy := ⟨by decide, rfl⟩)
  rw [hk, hr, ← c_main_v673__main_v2137 hag hel, ← c_main_v674__main_v2138 hag hel]

theorem c_main_v676__main_v2143 : StableHlo.after Cert.KernelIdeal.Hand.KOps (Cert.KernelIdeal.Hand.Wl (F := Ideal) m ρ c) (Proc.devRef .tc Cert.KernelIdeal.main_v676) = StableHlo.after (Cert.ReferenceIdeal.Hand.ops (F := Ideal)) (StableHlo.launchContents m' c) (Proc.devRef .tc Cert.ReferenceIdeal.main_v2143) := by
  have hk := StableHlo.Ascending.eq_binary Cert.KernelIdeal.Hand.KOps_asc (Cert.KernelIdeal.Hand.Wl m ρ c) (Cert.KernelIdeal.Hand.mem_KOps_st7 (Cert.KernelIdeal.Hand.mem_st_7_50 (List.getElem_mem (l := Cert.KernelIdeal.GenP.hostOps7_50 (F := Ideal)) (n := 135) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part43 (List.getElem_mem (l := Cert.ReferenceIdeal.Hand.ops_part43 (F := Ideal)) (n := 15) (by decide))) rfl rfl rfl (by decide) (by decide) (ha := ⟨by decide, rfl⟩) (hb := ⟨by decide, rfl⟩) (hy := ⟨by decide, rfl⟩)
  rw [hk, hr, ← c_main_v555__main_v1773 hag hel]

theorem c_main_cst_126__main_cst_450 : StableHlo.after Cert.KernelIdeal.Hand.KOps (Cert.KernelIdeal.Hand.Wl (F := Ideal) m ρ c) (Proc.devRef .tc Cert.KernelIdeal.main_cst_126) = StableHlo.after (Cert.ReferenceIdeal.Hand.ops (F := Ideal)) (StableHlo.launchContents m' c) (Proc.devRef .tc Cert.ReferenceIdeal.main_cst_450) := by
  have hk := StableHlo.Ascending.eq_nullary Cert.KernelIdeal.Hand.KOps_asc (Cert.KernelIdeal.Hand.Wl m ρ c) (Cert.KernelIdeal.Hand.mem_KOps_st7 (Cert.KernelIdeal.Hand.mem_st_7_50 (List.getElem_mem (l := Cert.KernelIdeal.GenP.hostOps7_50 (F := Ideal)) (n := 136) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part43 (List.getElem_mem (l := Cert.ReferenceIdeal.Hand.ops_part43 (F := Ideal)) (n := 16) (by decide))) rfl (hy := ⟨by decide, rfl⟩)
  rw [hk, hr]

theorem c_main_v677__main_v2144 : StableHlo.after Cert.KernelIdeal.Hand.KOps (Cert.KernelIdeal.Hand.Wl (F := Ideal) m ρ c) (Proc.devRef .tc Cert.KernelIdeal.main_v677) = StableHlo.after (Cert.ReferenceIdeal.Hand.ops (F := Ideal)) (StableHlo.launchContents m' c) (Proc.devRef .tc Cert.ReferenceIdeal.main_v2144) := by
  have hk := StableHlo.Ascending.eq_binary Cert.KernelIdeal.Hand.KOps_asc (Cert.KernelIdeal.Hand.Wl m ρ c) (Cert.KernelIdeal.Hand.mem_KOps_st7 (Cert.KernelIdeal.Hand.mem_st_7_50 (List.getElem_mem (l := Cert.KernelIdeal.GenP.hostOps7_50 (F := Ideal)) (n := 137) (by decide)))) rfl rfl rfl (by decide) (by decide) (a := Cert.KernelIdeal.main_v676) (b := Cert.KernelIdeal.main_cst_126) (y := Cert.KernelIdeal.main_v677) (f := open Cert.KernelIdeal Cert.KernelIdeal.Gen in (fun x v => Host.reduceAdd (F := Ideal) x v reducesTo_S2048x256_S2048_d1 h_S_)) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part43 (List.getElem_mem (l := Cert.ReferenceIdeal.Hand.ops_part43 (F := Ideal)) (n := 17) (by decide))) rfl rfl rfl (by decide) (by decide) (a := Cert.ReferenceIdeal.main_v2143) (b := Cert.ReferenceIdeal.main_cst_450) (y := Cert.ReferenceIdeal.main_v2144) (f := open Cert.ReferenceIdeal Cert.ReferenceIdeal.Gen in (fun x v => Host.reduceAdd (F := Ideal) x v reducesTo_S2048x256_S2048_d1 h_S_)) (ha := ⟨by decide, rfl⟩) (hb := ⟨by decide, rfl⟩) (hy := ⟨by decide, rfl⟩)
  rw [hk, hr, ← c_main_v676__main_v2143 hag hel, ← c_main_cst_126__main_cst_450 hag hel]

theorem c_main_v678__main_v2145 : StableHlo.after Cert.KernelIdeal.Hand.KOps (Cert.KernelIdeal.Hand.Wl (F := Ideal) m ρ c) (Proc.devRef .tc Cert.KernelIdeal.main_v678) = StableHlo.after (Cert.ReferenceIdeal.Hand.ops (F := Ideal)) (StableHlo.launchContents m' c) (Proc.devRef .tc Cert.ReferenceIdeal.main_v2145) := by
  have hk := StableHlo.Ascending.eq_unary Cert.KernelIdeal.Hand.KOps_asc (Cert.KernelIdeal.Hand.Wl m ρ c) (Cert.KernelIdeal.Hand.mem_KOps_st7 (Cert.KernelIdeal.Hand.mem_st_7_50 (List.getElem_mem (l := Cert.KernelIdeal.GenP.hostOps7_50 (F := Ideal)) (n := 138) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part43 (List.getElem_mem (l := Cert.ReferenceIdeal.Hand.ops_part43 (F := Ideal)) (n := 18) (by decide))) rfl rfl (by decide) (hx := ⟨by decide, rfl⟩) (hy := ⟨by decide, rfl⟩)
  rw [hk, hr, ← c_main_v677__main_v2144 hag hel]

theorem c_main_v679__main_v2146 : StableHlo.after Cert.KernelIdeal.Hand.KOps (Cert.KernelIdeal.Hand.Wl (F := Ideal) m ρ c) (Proc.devRef .tc Cert.KernelIdeal.main_v679) = StableHlo.after (Cert.ReferenceIdeal.Hand.ops (F := Ideal)) (StableHlo.launchContents m' c) (Proc.devRef .tc Cert.ReferenceIdeal.main_v2146) := by
  have hk := StableHlo.Ascending.eq_unary Cert.KernelIdeal.Hand.KOps_asc (Cert.KernelIdeal.Hand.Wl m ρ c) (Cert.KernelIdeal.Hand.mem_KOps_st7 (Cert.KernelIdeal.Hand.mem_st_7_50 (List.getElem_mem (l := Cert.KernelIdeal.GenP.hostOps7_50 (F := Ideal)) (n := 139) (by decide)))) rfl rfl (by decide) (x := Cert.KernelIdeal.main_v555) (y := Cert.KernelIdeal.main_v679) (f := open Cert.KernelIdeal Cert.KernelIdeal.Gen in (transpose S256x2048 [1, 0] · transposes_S2048x256_S256x2048_1_0)) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part43 (List.getElem_mem (l := Cert.ReferenceIdeal.Hand.ops_part43 (F := Ideal)) (n := 19) (by decide))) rfl rfl (by decide) (x := Cert.ReferenceIdeal.main_v1773) (y := Cert.ReferenceIdeal.main_v2146) (f := open Cert.ReferenceIdeal Cert.ReferenceIdeal.Gen in (transpose S256x2048 [1, 0] · transposes_S2048x256_S256x2048_1_0)) (hx := ⟨by decide, rfl⟩) (hy := ⟨by decide, rfl⟩)
  rw [hk, hr, ← c_main_v555__main_v1773 hag hel]

theorem c_main_v680__main_v2147 : StableHlo.after Cert.KernelIdeal.Hand.KOps (Cert.KernelIdeal.Hand.Wl (F := Ideal) m ρ c) (Proc.devRef .tc Cert.KernelIdeal.main_v680) = StableHlo.after (Cert.ReferenceIdeal.Hand.ops (F := Ideal)) (StableHlo.launchContents m' c) (Proc.devRef .tc Cert.ReferenceIdeal.main_v2147) := by
  have hk := StableHlo.Ascending.eq_binary Cert.KernelIdeal.Hand.KOps_asc (Cert.KernelIdeal.Hand.Wl m ρ c) Cert.KernelIdeal.Hand.mem_KOps_reg7 rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part43 (List.getElem_mem (l := Cert.ReferenceIdeal.Hand.ops_part43 (F := Ideal)) (n := 20) (by decide))) rfl rfl rfl (by decide) (by decide) (ha := ⟨by decide, rfl⟩) (hb := ⟨by decide, rfl⟩) (hy := ⟨by decide, rfl⟩)
  rw [hk, hr, ← c_main_v555__main_v1773 hag hel, ← c_main_v679__main_v2146 hag hel]
  exact Cert.KernelIdeal.Hand.dot_eq7 _ _

theorem c_main_v681__main_v2148 : StableHlo.after Cert.KernelIdeal.Hand.KOps (Cert.KernelIdeal.Hand.Wl (F := Ideal) m ρ c) (Proc.devRef .tc Cert.KernelIdeal.main_v681) = StableHlo.after (Cert.ReferenceIdeal.Hand.ops (F := Ideal)) (StableHlo.launchContents m' c) (Proc.devRef .tc Cert.ReferenceIdeal.main_v2148) := by
  have hk := StableHlo.Ascending.eq_unary Cert.KernelIdeal.Hand.KOps_asc (Cert.KernelIdeal.Hand.Wl m ρ c) (Cert.KernelIdeal.Hand.mem_KOps_st8 (Cert.KernelIdeal.Hand.mem_st_8 (List.getElem_mem (l := Cert.KernelIdeal.GenP.hostOps8 (F := Ideal)) (n := 0) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part43 (List.getElem_mem (l := Cert.ReferenceIdeal.Hand.ops_part43 (F := Ideal)) (n := 21) (by decide))) rfl rfl (by decide) (hx := ⟨by decide, rfl⟩) (hy := ⟨by decide, rfl⟩)
  rw [hk, hr, ← c_main_v678__main_v2145 hag hel]

theorem c_main_v682__main_v2149 : StableHlo.after Cert.KernelIdeal.Hand.KOps (Cert.KernelIdeal.Hand.Wl (F := Ideal) m ρ c) (Proc.devRef .tc Cert.KernelIdeal.main_v682) = StableHlo.after (Cert.ReferenceIdeal.Hand.ops (F := Ideal)) (StableHlo.launchContents m' c) (Proc.devRef .tc Cert.ReferenceIdeal.main_v2149) := by
  have hk := StableHlo.Ascending.eq_unary Cert.KernelIdeal.Hand.KOps_asc (Cert.KernelIdeal.Hand.Wl m ρ c) (Cert.KernelIdeal.Hand.mem_KOps_st8 (Cert.KernelIdeal.Hand.mem_st_8 (List.getElem_mem (l := Cert.KernelIdeal.GenP.hostOps8 (F := Ideal)) (n := 1) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part43 (List.getElem_mem (l := Cert.ReferenceIdeal.Hand.ops_part43 (F := Ideal)) (n := 22) (by decide))) rfl rfl (by decide) (hx := ⟨by decide, rfl⟩) (hy := ⟨by decide, rfl⟩)
  rw [hk, hr, ← c_main_v678__main_v2145 hag hel]

theorem c_main_v683__main_v2150 : StableHlo.after Cert.KernelIdeal.Hand.KOps (Cert.KernelIdeal.Hand.Wl (F := Ideal) m ρ c) (Proc.devRef .tc Cert.KernelIdeal.main_v683) = StableHlo.after (Cert.ReferenceIdeal.Hand.ops (F := Ideal)) (StableHlo.launchContents m' c) (Proc.devRef .tc Cert.ReferenceIdeal.main_v2150) := by
  have hk := StableHlo.Ascending.eq_unary Cert.KernelIdeal.Hand.KOps_asc (Cert.KernelIdeal.Hand.Wl m ρ c) (Cert.KernelIdeal.Hand.mem_KOps_st8 (Cert.KernelIdeal.Hand.mem_st_8 (List.getElem_mem (l := Cert.KernelIdeal.GenP.hostOps8 (F := Ideal)) (n := 2) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part43 (List.getElem_mem (l := Cert.ReferenceIdeal.Hand.ops_part43 (F := Ideal)) (n := 23) (by decide))) rfl rfl (by decide) (hx := ⟨by decide, rfl⟩) (hy := ⟨by decide, rfl⟩)
  rw [hk, hr, ← c_main_v681__main_v2148 hag hel]

theorem c_main_v684__main_v2151 : StableHlo.after Cert.KernelIdeal.Hand.KOps (Cert.KernelIdeal.Hand.Wl (F := Ideal) m ρ c) (Proc.devRef .tc Cert.KernelIdeal.main_v684) = StableHlo.after (Cert.ReferenceIdeal.Hand.ops (F := Ideal)) (StableHlo.launchContents m' c) (Proc.devRef .tc Cert.ReferenceIdeal.main_v2151) := by
  have hk := StableHlo.Ascending.eq_unary Cert.KernelIdeal.Hand.KOps_asc (Cert.KernelIdeal.Hand.Wl m ρ c) (Cert.KernelIdeal.Hand.mem_KOps_st8 (Cert.KernelIdeal.Hand.mem_st_8 (List.getElem_mem (l := Cert.KernelIdeal.GenP.hostOps8 (F := Ideal)) (n := 3) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part43 (List.getElem_mem (l := Cert.ReferenceIdeal.Hand.ops_part43 (F := Ideal)) (n := 24) (by decide))) rfl rfl (by decide) (hx := ⟨by decide, rfl⟩) (hy := ⟨by decide, rfl⟩)
  rw [hk, hr, ← c_main_v682__main_v2149 hag hel]

theorem c_main_v685__main_v2152 : StableHlo.after Cert.KernelIdeal.Hand.KOps (Cert.KernelIdeal.Hand.Wl (F := Ideal) m ρ c) (Proc.devRef .tc Cert.KernelIdeal.main_v685) = StableHlo.after (Cert.ReferenceIdeal.Hand.ops (F := Ideal)) (StableHlo.launchContents m' c) (Proc.devRef .tc Cert.ReferenceIdeal.main_v2152) := by
  have hk := StableHlo.Ascending.eq_binary Cert.KernelIdeal.Hand.KOps_asc (Cert.KernelIdeal.Hand.Wl m ρ c) (Cert.KernelIdeal.Hand.mem_KOps_st8 (Cert.KernelIdeal.Hand.mem_st_8 (List.getElem_mem (l := Cert.KernelIdeal.GenP.hostOps8 (F := Ideal)) (n := 4) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part43 (List.getElem_mem (l := Cert.ReferenceIdeal.Hand.ops_part43 (F := Ideal)) (n := 25) (by decide))) rfl rfl rfl (by decide) (by decide) (ha := ⟨by decide, rfl⟩) (hb := ⟨by decide, rfl⟩) (hy := ⟨by decide, rfl⟩)
  rw [hk, hr, ← c_main_v683__main_v2150 hag hel, ← c_main_v684__main_v2151 hag hel]

theorem c_main_v686__main_v2153 : StableHlo.after Cert.KernelIdeal.Hand.KOps (Cert.KernelIdeal.Hand.Wl (F := Ideal) m ρ c) (Proc.devRef .tc Cert.KernelIdeal.main_v686) = StableHlo.after (Cert.ReferenceIdeal.Hand.ops (F := Ideal)) (StableHlo.launchContents m' c) (Proc.devRef .tc Cert.ReferenceIdeal.main_v2153) := by
  have hk := StableHlo.Ascending.eq_binary Cert.KernelIdeal.Hand.KOps_asc (Cert.KernelIdeal.Hand.Wl m ρ c) (Cert.KernelIdeal.Hand.mem_KOps_st8 (Cert.KernelIdeal.Hand.mem_st_8 (List.getElem_mem (l := Cert.KernelIdeal.GenP.hostOps8 (F := Ideal)) (n := 5) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part43 (List.getElem_mem (l := Cert.ReferenceIdeal.Hand.ops_part43 (F := Ideal)) (n := 26) (by decide))) rfl rfl rfl (by decide) (by decide) (ha := ⟨by decide, rfl⟩) (hb := ⟨by decide, rfl⟩) (hy := ⟨by decide, rfl⟩)
  rw [hk, hr, ← c_main_v680__main_v2147 hag hel, ← c_main_v685__main_v2152 hag hel]

theorem c_main_v687__main_v2154 : StableHlo.after Cert.KernelIdeal.Hand.KOps (Cert.KernelIdeal.Hand.Wl (F := Ideal) m ρ c) (Proc.devRef .tc Cert.KernelIdeal.main_v687) = StableHlo.after (Cert.ReferenceIdeal.Hand.ops (F := Ideal)) (StableHlo.launchContents m' c) (Proc.devRef .tc Cert.ReferenceIdeal.main_v2154) := by
  have hk := StableHlo.Ascending.eq_nullary Cert.KernelIdeal.Hand.KOps_asc (Cert.KernelIdeal.Hand.Wl m ρ c) (Cert.KernelIdeal.Hand.mem_KOps_st8 (Cert.KernelIdeal.Hand.mem_st_8 (List.getElem_mem (l := Cert.KernelIdeal.GenP.hostOps8 (F := Ideal)) (n := 6) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part43 (List.getElem_mem (l := Cert.ReferenceIdeal.Hand.ops_part43 (F := Ideal)) (n := 27) (by decide))) rfl (hy := ⟨by decide, rfl⟩)
  rw [hk, hr]

theorem c_main_v688__main_v2155 : StableHlo.after Cert.KernelIdeal.Hand.KOps (Cert.KernelIdeal.Hand.Wl (F := Ideal) m ρ c) (Proc.devRef .tc Cert.KernelIdeal.main_v688) = StableHlo.after (Cert.ReferenceIdeal.Hand.ops (F := Ideal)) (StableHlo.launchContents m' c) (Proc.devRef .tc Cert.ReferenceIdeal.main_v2155) := by
  have hk := StableHlo.Ascending.eq_nullary Cert.KernelIdeal.Hand.KOps_asc (Cert.KernelIdeal.Hand.Wl m ρ c) (Cert.KernelIdeal.Hand.mem_KOps_st8 (Cert.KernelIdeal.Hand.mem_st_8 (List.getElem_mem (l := Cert.KernelIdeal.GenP.hostOps8 (F := Ideal)) (n := 7) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part43 (List.getElem_mem (l := Cert.ReferenceIdeal.Hand.ops_part43 (F := Ideal)) (n := 28) (by decide))) rfl (hy := ⟨by decide, rfl⟩)
  rw [hk, hr]

theorem c_main_c_127__main_c_451 : StableHlo.after Cert.KernelIdeal.Hand.KOps (Cert.KernelIdeal.Hand.Wl (F := Ideal) m ρ c) (Proc.devRef .tc Cert.KernelIdeal.main_c_127) = StableHlo.after (Cert.ReferenceIdeal.Hand.ops (F := Ideal)) (StableHlo.launchContents m' c) (Proc.devRef .tc Cert.ReferenceIdeal.main_c_451) := by
  have hk := StableHlo.Ascending.eq_nullary Cert.KernelIdeal.Hand.KOps_asc (Cert.KernelIdeal.Hand.Wl m ρ c) (Cert.KernelIdeal.Hand.mem_KOps_st8 (Cert.KernelIdeal.Hand.mem_st_8 (List.getElem_mem (l := Cert.KernelIdeal.GenP.hostOps8 (F := Ideal)) (n := 8) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part43 (List.getElem_mem (l := Cert.ReferenceIdeal.Hand.ops_part43 (F := Ideal)) (n := 29) (by decide))) rfl (hy := ⟨by decide, rfl⟩)
  rw [hk, hr]

theorem c_main_v689__main_v2156 : StableHlo.after Cert.KernelIdeal.Hand.KOps (Cert.KernelIdeal.Hand.Wl (F := Ideal) m ρ c) (Proc.devRef .tc Cert.KernelIdeal.main_v689) = StableHlo.after (Cert.ReferenceIdeal.Hand.ops (F := Ideal)) (StableHlo.launchContents m' c) (Proc.devRef .tc Cert.ReferenceIdeal.main_v2156) := by
  have hk := StableHlo.Ascending.eq_unary Cert.KernelIdeal.Hand.KOps_asc (Cert.KernelIdeal.Hand.Wl m ρ c) (Cert.KernelIdeal.Hand.mem_KOps_st8 (Cert.KernelIdeal.Hand.mem_st_8 (List.getElem_mem (l := Cert.KernelIdeal.GenP.hostOps8 (F := Ideal)) (n := 9) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part43 (List.getElem_mem (l := Cert.ReferenceIdeal.Hand.ops_part43 (F := Ideal)) (n := 30) (by decide))) rfl rfl (by decide) (hx := ⟨by decide, rfl⟩) (hy := ⟨by decide, rfl⟩)
  rw [hk, hr, ← c_main_c_127__main_c_451 hag hel]

theorem c_main_v690__main_v2157 : StableHlo.after Cert.KernelIdeal.Hand.KOps (Cert.KernelIdeal.Hand.Wl (F := Ideal) m ρ c) (Proc.devRef .tc Cert.KernelIdeal.main_v690) = StableHlo.after (Cert.ReferenceIdeal.Hand.ops (F := Ideal)) (StableHlo.launchContents m' c) (Proc.devRef .tc Cert.ReferenceIdeal.main_v2157) := by
  have hk := StableHlo.Ascending.eq_binary Cert.KernelIdeal.Hand.KOps_asc (Cert.KernelIdeal.Hand.Wl m ρ c) (Cert.KernelIdeal.Hand.mem_KOps_st8 (Cert.KernelIdeal.Hand.mem_st_8 (List.getElem_mem (l := Cert.KernelIdeal.GenP.hostOps8 (F := Ideal)) (n := 10) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part43 (List.getElem_mem (l := Cert.ReferenceIdeal.Hand.ops_part43 (F := Ideal)) (n := 31) (by decide))) rfl rfl rfl (by decide) (by decide) (ha := ⟨by decide, rfl⟩) (hb := ⟨by decide, rfl⟩) (hy := ⟨by decide, rfl⟩)
  rw [hk, hr, ← c_main_v687__main_v2154 hag hel, ← c_main_v689__main_v2156 hag hel]

theorem c_main_v691__main_v2158 : StableHlo.after Cert.KernelIdeal.Hand.KOps (Cert.KernelIdeal.Hand.Wl (F := Ideal) m ρ c) (Proc.devRef .tc Cert.KernelIdeal.main_v691) = StableHlo.after (Cert.ReferenceIdeal.Hand.ops (F := Ideal)) (StableHlo.launchContents m' c) (Proc.devRef .tc Cert.ReferenceIdeal.main_v2158) := by
  have hk := StableHlo.Ascending.eq_binary Cert.KernelIdeal.Hand.KOps_asc (Cert.KernelIdeal.Hand.Wl m ρ c) (Cert.KernelIdeal.Hand.mem_KOps_st8 (Cert.KernelIdeal.Hand.mem_st_8 (List.getElem_mem (l := Cert.KernelIdeal.GenP.hostOps8 (F := Ideal)) (n := 11) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part43 (List.getElem_mem (l := Cert.ReferenceIdeal.Hand.ops_part43 (F := Ideal)) (n := 32) (by decide))) rfl rfl rfl (by decide) (by decide) (ha := ⟨by decide, rfl⟩) (hb := ⟨by decide, rfl⟩) (hy := ⟨by decide, rfl⟩)
  rw [hk, hr, ← c_main_v690__main_v2157 hag hel, ← c_main_v688__main_v2155 hag hel]

theorem c_main_v692__main_v2159 : StableHlo.after Cert.KernelIdeal.Hand.KOps (Cert.KernelIdeal.Hand.Wl (F := Ideal) m ρ c) (Proc.devRef .tc Cert.KernelIdeal.main_v692) = StableHlo.after (Cert.ReferenceIdeal.Hand.ops (F := Ideal)) (StableHlo.launchContents m' c) (Proc.devRef .tc Cert.ReferenceIdeal.main_v2159) := by
  have hk := StableHlo.Ascending.eq_unary Cert.KernelIdeal.Hand.KOps_asc (Cert.KernelIdeal.Hand.Wl m ρ c) (Cert.KernelIdeal.Hand.mem_KOps_st8 (Cert.KernelIdeal.Hand.mem_st_8 (List.getElem_mem (l := Cert.KernelIdeal.GenP.hostOps8 (F := Ideal)) (n := 12) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part43 (List.getElem_mem (l := Cert.ReferenceIdeal.Hand.ops_part43 (F := Ideal)) (n := 33) (by decide))) rfl rfl (by decide) (hx := ⟨by decide, rfl⟩) (hy := ⟨by decide, rfl⟩)
  rw [hk, hr, ← c_main_v691__main_v2158 hag hel]

theorem c_main_cst_128__main_cst_452 : StableHlo.after Cert.KernelIdeal.Hand.KOps (Cert.KernelIdeal.Hand.Wl (F := Ideal) m ρ c) (Proc.devRef .tc Cert.KernelIdeal.main_cst_128) = StableHlo.after (Cert.ReferenceIdeal.Hand.ops (F := Ideal)) (StableHlo.launchContents m' c) (Proc.devRef .tc Cert.ReferenceIdeal.main_cst_452) := by
  have hk := StableHlo.Ascending.eq_nullary Cert.KernelIdeal.Hand.KOps_asc (Cert.KernelIdeal.Hand.Wl m ρ c) (Cert.KernelIdeal.Hand.mem_KOps_st8 (Cert.KernelIdeal.Hand.mem_st_8 (List.getElem_mem (l := Cert.KernelIdeal.GenP.hostOps8 (F := Ideal)) (n := 13) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part43 (List.getElem_mem (l := Cert.ReferenceIdeal.Hand.ops_part43 (F := Ideal)) (n := 34) (by decide))) rfl (hy := ⟨by decide, rfl⟩)
  rw [hk, hr]

theorem c_main_v693__main_v2160 : StableHlo.after Cert.KernelIdeal.Hand.KOps (Cert.KernelIdeal.Hand.Wl (F := Ideal) m ρ c) (Proc.devRef .tc Cert.KernelIdeal.main_v693) = StableHlo.after (Cert.ReferenceIdeal.Hand.ops (F := Ideal)) (StableHlo.launchContents m' c) (Proc.devRef .tc Cert.ReferenceIdeal.main_v2160) := by
  have hk := StableHlo.Ascending.eq_unary Cert.KernelIdeal.Hand.KOps_asc (Cert.KernelIdeal.Hand.Wl m ρ c) (Cert.KernelIdeal.Hand.mem_KOps_st8 (Cert.KernelIdeal.Hand.mem_st_8 (List.getElem_mem (l := Cert.KernelIdeal.GenP.hostOps8 (F := Ideal)) (n := 14) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part43 (List.getElem_mem (l := Cert.ReferenceIdeal.Hand.ops_part43 (F := Ideal)) (n := 35) (by decide))) rfl rfl (by decide) (hx := ⟨by decide, rfl⟩) (hy := ⟨by decide, rfl⟩)
  rw [hk, hr, ← c_main_cst_128__main_cst_452 hag hel]

theorem c_main_v694__main_v2161 : StableHlo.after Cert.KernelIdeal.Hand.KOps (Cert.KernelIdeal.Hand.Wl (F := Ideal) m ρ c) (Proc.devRef .tc Cert.KernelIdeal.main_v694) = StableHlo.after (Cert.ReferenceIdeal.Hand.ops (F := Ideal)) (StableHlo.launchContents m' c) (Proc.devRef .tc Cert.ReferenceIdeal.main_v2161) := by
  have hk := StableHlo.Ascending.eq_binary Cert.KernelIdeal.Hand.KOps_asc (Cert.KernelIdeal.Hand.Wl m ρ c) (Cert.KernelIdeal.Hand.mem_KOps_st8 (Cert.KernelIdeal.Hand.mem_st_8 (List.getElem_mem (l := Cert.KernelIdeal.GenP.hostOps8 (F := Ideal)) (n := 15) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part43 (List.getElem_mem (l := Cert.ReferenceIdeal.Hand.ops_part43 (F := Ideal)) (n := 36) (by decide))) rfl rfl rfl (by decide) (by decide) (ha := ⟨by decide, rfl⟩) (hb := ⟨by decide, rfl⟩) (hy := ⟨by decide, rfl⟩)
  rw [hk, hr, ← c_main_v693__main_v2160 hag hel, ← c_main_v692__main_v2159 hag hel]

theorem c_main_cst_129__main_cst_453 : StableHlo.after Cert.KernelIdeal.Hand.KOps (Cert.KernelIdeal.Hand.Wl (F := Ideal) m ρ c) (Proc.devRef .tc Cert.KernelIdeal.main_cst_129) = StableHlo.after (Cert.ReferenceIdeal.Hand.ops (F := Ideal)) (StableHlo.launchContents m' c) (Proc.devRef .tc Cert.ReferenceIdeal.main_cst_453) := by
  have hk := StableHlo.Ascending.eq_nullary Cert.KernelIdeal.Hand.KOps_asc (Cert.KernelIdeal.Hand.Wl m ρ c) (Cert.KernelIdeal.Hand.mem_KOps_st8 (Cert.KernelIdeal.Hand.mem_st_8 (List.getElem_mem (l := Cert.KernelIdeal.GenP.hostOps8 (F := Ideal)) (n := 16) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part43 (List.getElem_mem (l := Cert.ReferenceIdeal.Hand.ops_part43 (F := Ideal)) (n := 37) (by decide))) rfl (hy := ⟨by decide, rfl⟩)
  rw [hk, hr]

theorem c_main_v695__main_v2162 : StableHlo.after Cert.KernelIdeal.Hand.KOps (Cert.KernelIdeal.Hand.Wl (F := Ideal) m ρ c) (Proc.devRef .tc Cert.KernelIdeal.main_v695) = StableHlo.after (Cert.ReferenceIdeal.Hand.ops (F := Ideal)) (StableHlo.launchContents m' c) (Proc.devRef .tc Cert.ReferenceIdeal.main_v2162) := by
  have hk := StableHlo.Ascending.eq_unary Cert.KernelIdeal.Hand.KOps_asc (Cert.KernelIdeal.Hand.Wl m ρ c) (Cert.KernelIdeal.Hand.mem_KOps_st8 (Cert.KernelIdeal.Hand.mem_st_8 (List.getElem_mem (l := Cert.KernelIdeal.GenP.hostOps8 (F := Ideal)) (n := 17) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part43 (List.getElem_mem (l := Cert.ReferenceIdeal.Hand.ops_part43 (F := Ideal)) (n := 38) (by decide))) rfl rfl (by decide) (hx := ⟨by decide, rfl⟩) (hy := ⟨by decide, rfl⟩)
  rw [hk, hr, ← c_main_cst_129__main_cst_453 hag hel]

theorem c_main_v696__main_v2163 : StableHlo.after Cert.KernelIdeal.Hand.KOps (Cert.KernelIdeal.Hand.Wl (F := Ideal) m ρ c) (Proc.devRef .tc Cert.KernelIdeal.main_v696) = StableHlo.after (Cert.ReferenceIdeal.Hand.ops (F := Ideal)) (StableHlo.launchContents m' c) (Proc.devRef .tc Cert.ReferenceIdeal.main_v2163) := by
  have hk := StableHlo.Ascending.eq_binary Cert.KernelIdeal.Hand.KOps_asc (Cert.KernelIdeal.Hand.Wl m ρ c) (Cert.KernelIdeal.Hand.mem_KOps_st8 (Cert.KernelIdeal.Hand.mem_st_8 (List.getElem_mem (l := Cert.KernelIdeal.GenP.hostOps8 (F := Ideal)) (n := 18) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part43 (List.getElem_mem (l := Cert.ReferenceIdeal.Hand.ops_part43 (F := Ideal)) (n := 39) (by decide))) rfl rfl rfl (by decide) (by decide) (ha := ⟨by decide, rfl⟩) (hb := ⟨by decide, rfl⟩) (hy := ⟨by decide, rfl⟩)
  rw [hk, hr, ← c_main_v686__main_v2153 hag hel, ← c_main_v695__main_v2162 hag hel]

theorem c_main_cst_130__main_cst_454 : StableHlo.after Cert.KernelIdeal.Hand.KOps (Cert.KernelIdeal.Hand.Wl (F := Ideal) m ρ c) (Proc.devRef .tc Cert.KernelIdeal.main_cst_130) = StableHlo.after (Cert.ReferenceIdeal.Hand.ops (F := Ideal)) (StableHlo.launchContents m' c) (Proc.devRef .tc Cert.ReferenceIdeal.main_cst_454) := by
  have hk := StableHlo.Ascending.eq_nullary Cert.KernelIdeal.Hand.KOps_asc (Cert.KernelIdeal.Hand.Wl m ρ c) (Cert.KernelIdeal.Hand.mem_KOps_st8 (Cert.KernelIdeal.Hand.mem_st_8 (List.getElem_mem (l := Cert.KernelIdeal.GenP.hostOps8 (F := Ideal)) (n := 19) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part43 (List.getElem_mem (l := Cert.ReferenceIdeal.Hand.ops_part43 (F := Ideal)) (n := 40) (by decide))) rfl (hy := ⟨by decide, rfl⟩)
  rw [hk, hr]

theorem c_main_call26_v0__main_call101_v0 : StableHlo.after Cert.KernelIdeal.Hand.KOps (Cert.KernelIdeal.Hand.Wl (F := Ideal) m ρ c) (Proc.devRef .tc Cert.KernelIdeal.main_call26_v0) = StableHlo.after (Cert.ReferenceIdeal.Hand.ops (F := Ideal)) (StableHlo.launchContents m' c) (Proc.devRef .tc Cert.ReferenceIdeal.main_call101_v0) := by
  have hk := StableHlo.Ascending.eq_unary Cert.KernelIdeal.Hand.KOps_asc (Cert.KernelIdeal.Hand.Wl m ρ c) (Cert.KernelIdeal.Hand.mem_KOps_st8 (Cert.KernelIdeal.Hand.mem_st_8_1 (List.getElem_mem (l := Cert.KernelIdeal.GenP.hostOps8_1 (F := Ideal)) (n := 0) (by decide)))) rfl rfl (by decide) (x := Cert.KernelIdeal.main_cst_130) (y := Cert.KernelIdeal.main_call26_v0) (f := open Cert.KernelIdeal Cert.KernelIdeal.Gen in id) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part43 (List.getElem_mem (l := Cert.ReferenceIdeal.Hand.ops_part43 (F := Ideal)) (n := 41) (by decide))) rfl rfl (by decide) (x := Cert.ReferenceIdeal.main_cst_454) (y := Cert.ReferenceIdeal.main_call101_v0) (f := open Cert.ReferenceIdeal Cert.ReferenceIdeal.Gen in id) (hx := ⟨by decide, rfl⟩) (hy := ⟨by decide, rfl⟩)
  rw [hk, hr, ← c_main_cst_130__main_cst_454 hag hel]

theorem c_main_call26_v1__main_call101_v1 : StableHlo.after Cert.KernelIdeal.Hand.KOps (Cert.KernelIdeal.Hand.Wl (F := Ideal) m ρ c) (Proc.devRef .tc Cert.KernelIdeal.main_call26_v1) = StableHlo.after (Cert.ReferenceIdeal.Hand.ops (F := Ideal)) (StableHlo.launchContents m' c) (Proc.devRef .tc Cert.ReferenceIdeal.main_call101_v1) := by
  have hk := StableHlo.Ascending.eq_unary Cert.KernelIdeal.Hand.KOps_asc (Cert.KernelIdeal.Hand.Wl m ρ c) (Cert.KernelIdeal.Hand.mem_KOps_st8 (Cert.KernelIdeal.Hand.mem_st_8_1 (List.getElem_mem (l := Cert.KernelIdeal.GenP.hostOps8_1 (F := Ideal)) (n := 1) (by decide)))) rfl rfl (by decide) (x := Cert.KernelIdeal.main_call26_v0) (y := Cert.KernelIdeal.main_call26_v1) (f := open Cert.KernelIdeal Cert.KernelIdeal.Gen in (broadcastInDim S2048x2048 ![] bcast_S_S2048x2048)) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part43 (List.getElem_mem (l := Cert.ReferenceIdeal.Hand.ops_part43 (F := Ideal)) (n := 42) (by decide))) rfl rfl (by decide) (x := Cert.ReferenceIdeal.main_call101_v0) (y := Cert.ReferenceIdeal.main_call101_v1) (f := open Cert.ReferenceIdeal Cert.ReferenceIdeal.Gen in (broadcastInDim S2048x2048 ![] bcast_S_S2048x2048)) (hx := ⟨by decide, rfl⟩) (hy := ⟨by decide, rfl⟩)
  rw [hk, hr, ← c_main_call26_v0__main_call101_v0 hag hel]

theorem c_main_v697__main_v2164 : StableHlo.after Cert.KernelIdeal.Hand.KOps (Cert.KernelIdeal.Hand.Wl (F := Ideal) m ρ c) (Proc.devRef .tc Cert.KernelIdeal.main_v697) = StableHlo.after (Cert.ReferenceIdeal.Hand.ops (F := Ideal)) (StableHlo.launchContents m' c) (Proc.devRef .tc Cert.ReferenceIdeal.main_v2164) := by
  have hk := StableHlo.Ascending.eq_ternary Cert.KernelIdeal.Hand.KOps_asc (Cert.KernelIdeal.Hand.Wl m ρ c) (Cert.KernelIdeal.Hand.mem_KOps_st8 (Cert.KernelIdeal.Hand.mem_st_8_1 (List.getElem_mem (l := Cert.KernelIdeal.GenP.hostOps8_1 (F := Ideal)) (n := 2) (by decide)))) rfl rfl rfl rfl (by decide) (by decide) (by decide) (c := Cert.KernelIdeal.main_v696) (a := Cert.KernelIdeal.main_v686) (b := Cert.KernelIdeal.main_call26_v1) (y := Cert.KernelIdeal.main_v697) (f := (select : (⟨Cert.KernelIdeal.S2048x2048, .i1⟩ : BufTy).Contents (Elt Ideal) → (⟨Cert.KernelIdeal.S2048x2048, .f32⟩ : BufTy).Contents (Elt Ideal) → (⟨Cert.KernelIdeal.S2048x2048, .f32⟩ : BufTy).Contents (Elt Ideal) → (⟨Cert.KernelIdeal.S2048x2048, .f32⟩ : BufTy).Contents (Elt Ideal))) (hc := ⟨by decide, rfl⟩) (ha := ⟨by decide, rfl⟩) (hb := ⟨by decide, rfl⟩) (hy := ⟨by decide, rfl⟩)
  have hr := StableHlo.Ascending.eq_ternary (Cert.ReferenceIdeal.Hand.ops_asc (F := Ideal)) (StableHlo.launchContents m' c) (Cert.ReferenceIdeal.Hand.mem_ops_part43 (List.getElem_mem (l := Cert.ReferenceIdeal.Hand.ops_part43 (F := Ideal)) (n := 43) (by decide))) rfl rfl rfl rfl (by decide) (by decide) (by decide) (c := Cert.ReferenceIdeal.main_v2163) (a := Cert.ReferenceIdeal.main_v2153) (b := Cert.ReferenceIdeal.main_call101_v1) (y := Cert.ReferenceIdeal.main_v2164) (f := (select : (⟨Cert.ReferenceIdeal.S2048x2048, .i1⟩ : BufTy).Contents (Elt Ideal) → (⟨Cert.ReferenceIdeal.S2048x2048, .f32⟩ : BufTy).Contents (Elt Ideal) → (⟨Cert.ReferenceIdeal.S2048x2048, .f32⟩ : BufTy).Contents (Elt Ideal) → (⟨Cert.ReferenceIdeal.S2048x2048, .f32⟩ : BufTy).Contents (Elt Ideal))) (hc := ⟨by decide, rfl⟩) (ha := ⟨by decide, rfl⟩) (hb := ⟨by decide, rfl⟩) (hy := ⟨by decide, rfl⟩)
  rw [hk, hr, ← c_main_v696__main_v2163 hag hel, ← c_main_v686__main_v2153 hag hel, ← c_main_call26_v1__main_call101_v1 hag hel]

theorem c_main_v698__main_v2165 : StableHlo.after Cert.KernelIdeal.Hand.KOps (Cert.KernelIdeal.Hand.Wl (F := Ideal) m ρ c) (Proc.devRef .tc Cert.KernelIdeal.main_v698) = StableHlo.after (Cert.ReferenceIdeal.Hand.ops (F := Ideal)) (StableHlo.launchContents m' c) (Proc.devRef .tc Cert.ReferenceIdeal.main_v2165) := by
  have hk := StableHlo.Ascending.eq_binary Cert.KernelIdeal.Hand.KOps_asc (Cert.KernelIdeal.Hand.Wl m ρ c) (Cert.KernelIdeal.Hand.mem_KOps_st8 (Cert.KernelIdeal.Hand.mem_st_8_2 (List.getElem_mem (l := Cert.KernelIdeal.GenP.hostOps8_2 (F := Ideal)) (n := 0) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part43 (List.getElem_mem (l := Cert.ReferenceIdeal.Hand.ops_part43 (F := Ideal)) (n := 44) (by decide))) rfl rfl rfl (by decide) (by decide) (ha := ⟨by decide, rfl⟩) (hb := ⟨by decide, rfl⟩) (hy := ⟨by decide, rfl⟩)
  rw [hk, hr, ← c_main_v697__main_v2164 hag hel, ← c_main_v694__main_v2161 hag hel]

theorem c_main_v699__main_v2167 : StableHlo.after Cert.KernelIdeal.Hand.KOps (Cert.KernelIdeal.Hand.Wl (F := Ideal) m ρ c) (Proc.devRef .tc Cert.KernelIdeal.main_v699) = StableHlo.after (Cert.ReferenceIdeal.Hand.ops (F := Ideal)) (StableHlo.launchContents m' c) (Proc.devRef .tc Cert.ReferenceIdeal.main_v2167) := by
  have hk := StableHlo.Ascending.eq_binary Cert.KernelIdeal.Hand.KOps_asc (Cert.KernelIdeal.Hand.Wl m ρ c) Cert.KernelIdeal.Hand.mem_KOps_reg8 rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part43 (List.getElem_mem (l := Cert.ReferenceIdeal.Hand.ops_part43 (F := Ideal)) (n := 46) (by decide))) rfl rfl rfl (by decide) (by decide) (ha := ⟨by decide, rfl⟩) (hb := ⟨by decide, rfl⟩) (hy := ⟨by decide, rfl⟩)
  rw [hk, hr, ← c_main_v24__main_v122 hag hel, ← c_main_v24__main_v2166 hag hel]
  exact Cert.KernelIdeal.Hand.dot_eq8 _ _

theorem c_main_cst_131__main_cst_455 : StableHlo.after Cert.KernelIdeal.Hand.KOps (Cert.KernelIdeal.Hand.Wl (F := Ideal) m ρ c) (Proc.devRef .tc Cert.KernelIdeal.main_cst_131) = StableHlo.after (Cert.ReferenceIdeal.Hand.ops (F := Ideal)) (StableHlo.launchContents m' c) (Proc.devRef .tc Cert.ReferenceIdeal.main_cst_455) := by
  have hk := StableHlo.Ascending.eq_nullary Cert.KernelIdeal.Hand.KOps_asc (Cert.KernelIdeal.Hand.Wl m ρ c) (Cert.KernelIdeal.Hand.mem_KOps_st9 (Cert.KernelIdeal.Hand.mem_st_9 (List.getElem_mem (l := Cert.KernelIdeal.GenP.hostOps9 (F := Ideal)) (n := 0) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part43 (List.getElem_mem (l := Cert.ReferenceIdeal.Hand.ops_part43 (F := Ideal)) (n := 47) (by decide))) rfl (hy := ⟨by decide, rfl⟩)
  rw [hk, hr]

theorem c_main_v700__main_v2168 : StableHlo.after Cert.KernelIdeal.Hand.KOps (Cert.KernelIdeal.Hand.Wl (F := Ideal) m ρ c) (Proc.devRef .tc Cert.KernelIdeal.main_v700) = StableHlo.after (Cert.ReferenceIdeal.Hand.ops (F := Ideal)) (StableHlo.launchContents m' c) (Proc.devRef .tc Cert.ReferenceIdeal.main_v2168) := by
  have hk := StableHlo.Ascending.eq_unary Cert.KernelIdeal.Hand.KOps_asc (Cert.KernelIdeal.Hand.Wl m ρ c) (Cert.KernelIdeal.Hand.mem_KOps_st9 (Cert.KernelIdeal.Hand.mem_st_9 (List.getElem_mem (l := Cert.KernelIdeal.GenP.hostOps9 (F := Ideal)) (n := 1) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part43 (List.getElem_mem (l := Cert.ReferenceIdeal.Hand.ops_part43 (F := Ideal)) (n := 48) (by decide))) rfl rfl (by decide) (hx := ⟨by decide, rfl⟩) (hy := ⟨by decide, rfl⟩)
  rw [hk, hr, ← c_main_cst_131__main_cst_455 hag hel]

theorem c_main_v701__main_v2169 : StableHlo.after Cert.KernelIdeal.Hand.KOps (Cert.KernelIdeal.Hand.Wl (F := Ideal) m ρ c) (Proc.devRef .tc Cert.KernelIdeal.main_v701) = StableHlo.after (Cert.ReferenceIdeal.Hand.ops (F := Ideal)) (StableHlo.launchContents m' c) (Proc.devRef .tc Cert.ReferenceIdeal.main_v2169) := by
  have hk := StableHlo.Ascending.eq_binary Cert.KernelIdeal.Hand.KOps_asc (Cert.KernelIdeal.Hand.Wl m ρ c) (Cert.KernelIdeal.Hand.mem_KOps_st9 (Cert.KernelIdeal.Hand.mem_st_9 (List.getElem_mem (l := Cert.KernelIdeal.GenP.hostOps9 (F := Ideal)) (n := 2) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part43 (List.getElem_mem (l := Cert.ReferenceIdeal.Hand.ops_part43 (F := Ideal)) (n := 49) (by decide))) rfl rfl rfl (by decide) (by decide) (ha := ⟨by decide, rfl⟩) (hb := ⟨by decide, rfl⟩) (hy := ⟨by decide, rfl⟩)
  rw [hk, hr, ← c_main_v699__main_v2167 hag hel, ← c_main_v700__main_v2168 hag hel]

theorem c_main_v702__main_v2170 : StableHlo.after Cert.KernelIdeal.Hand.KOps (Cert.KernelIdeal.Hand.Wl (F := Ideal) m ρ c) (Proc.devRef .tc Cert.KernelIdeal.main_v702) = StableHlo.after (Cert.ReferenceIdeal.Hand.ops (F := Ideal)) (StableHlo.launchContents m' c) (Proc.devRef .tc Cert.ReferenceIdeal.main_v2170) := by
  have hk := StableHlo.Ascending.eq_unary Cert.KernelIdeal.Hand.KOps_asc (Cert.KernelIdeal.Hand.Wl m ρ c) (Cert.KernelIdeal.Hand.mem_KOps_st9 (Cert.KernelIdeal.Hand.mem_st_9 (List.getElem_mem (l := Cert.KernelIdeal.GenP.hostOps9 (F := Ideal)) (n := 3) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part43 (List.getElem_mem (l := Cert.ReferenceIdeal.Hand.ops_part43 (F := Ideal)) (n := 50) (by decide))) rfl rfl (by decide) (hx := ⟨by decide, rfl⟩) (hy := ⟨by decide, rfl⟩)
  rw [hk, hr, ← c_main_v701__main_v2169 hag hel]

theorem c_main_v703__main_v2171 : StableHlo.after Cert.KernelIdeal.Hand.KOps (Cert.KernelIdeal.Hand.Wl (F := Ideal) m ρ c) (Proc.devRef .tc Cert.KernelIdeal.main_v703) = StableHlo.after (Cert.ReferenceIdeal.Hand.ops (F := Ideal)) (StableHlo.launchContents m' c) (Proc.devRef .tc Cert.ReferenceIdeal.main_v2171) := by
  have hk := StableHlo.Ascending.eq_binary Cert.KernelIdeal.Hand.KOps_asc (Cert.KernelIdeal.Hand.Wl m ρ c) (Cert.KernelIdeal.Hand.mem_KOps_st9 (Cert.KernelIdeal.Hand.mem_st_9 (List.getElem_mem (l := Cert.KernelIdeal.GenP.hostOps9 (F := Ideal)) (n := 4) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part43 (List.getElem_mem (l := Cert.ReferenceIdeal.Hand.ops_part43 (F := Ideal)) (n := 51) (by decide))) rfl rfl rfl (by decide) (by decide) (ha := ⟨by decide, rfl⟩) (hb := ⟨by decide, rfl⟩) (hy := ⟨by decide, rfl⟩)
  rw [hk, hr, ← c_main_v702__main_v2170 hag hel, ← c_main_v694__main_v2161 hag hel]

theorem c_main_v704__main_v2172 : StableHlo.after Cert.KernelIdeal.Hand.KOps (Cert.KernelIdeal.Hand.Wl (F := Ideal) m ρ c) (Proc.devRef .tc Cert.KernelIdeal.main_v704) = StableHlo.after (Cert.ReferenceIdeal.Hand.ops (F := Ideal)) (StableHlo.launchContents m' c) (Proc.devRef .tc Cert.ReferenceIdeal.main_v2172) := by
  have hk := StableHlo.Ascending.eq_binary Cert.KernelIdeal.Hand.KOps_asc (Cert.KernelIdeal.Hand.Wl m ρ c) (Cert.KernelIdeal.Hand.mem_KOps_st9 (Cert.KernelIdeal.Hand.mem_st_9 (List.getElem_mem (l := Cert.KernelIdeal.GenP.hostOps9 (F := Ideal)) (n := 5) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part43 (List.getElem_mem (l := Cert.ReferenceIdeal.Hand.ops_part43 (F := Ideal)) (n := 52) (by decide))) rfl rfl rfl (by decide) (by decide) (ha := ⟨by decide, rfl⟩) (hb := ⟨by decide, rfl⟩) (hy := ⟨by decide, rfl⟩)
  rw [hk, hr, ← c_main_v698__main_v2165 hag hel, ← c_main_v703__main_v2171 hag hel]

theorem c_main_cst_132__main_cst_456 : StableHlo.after Cert.KernelIdeal.Hand.KOps (Cert.KernelIdeal.Hand.Wl (F := Ideal) m ρ c) (Proc.devRef .tc Cert.KernelIdeal.main_cst_132) = StableHlo.after (Cert.ReferenceIdeal.Hand.ops (F := Ideal)) (StableHlo.launchContents m' c) (Proc.devRef .tc Cert.ReferenceIdeal.main_cst_456) := by
  have hk := StableHlo.Ascending.eq_nullary Cert.KernelIdeal.Hand.KOps_asc (Cert.KernelIdeal.Hand.Wl m ρ c) (Cert.KernelIdeal.Hand.mem_KOps_st9 (Cert.KernelIdeal.Hand.mem_st_9 (List.getElem_mem (l := Cert.KernelIdeal.GenP.hostOps9 (F := Ideal)) (n := 6) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part43 (List.getElem_mem (l := Cert.ReferenceIdeal.Hand.ops_part43 (F := Ideal)) (n := 53) (by decide))) rfl (hy := ⟨by decide, rfl⟩)
  rw [hk, hr]

theorem c_main_v705__main_v2173 : StableHlo.after Cert.KernelIdeal.Hand.KOps (Cert.KernelIdeal.Hand.Wl (F := Ideal) m ρ c) (Proc.devRef .tc Cert.KernelIdeal.main_v705) = StableHlo.after (Cert.ReferenceIdeal.Hand.ops (F := Ideal)) (StableHlo.launchContents m' c) (Proc.devRef .tc Cert.ReferenceIdeal.main_v2173) := by
  have hk := StableHlo.Ascending.eq_binary Cert.KernelIdeal.Hand.KOps_asc (Cert.KernelIdeal.Hand.Wl m ρ c) (Cert.KernelIdeal.Hand.mem_KOps_st9 (Cert.KernelIdeal.Hand.mem_st_9 (List.getElem_mem (l := Cert.KernelIdeal.GenP.hostOps9 (F := Ideal)) (n := 7) (by decide)))) rfl rfl rfl (by decide) (by decide) (a := Cert.KernelIdeal.main_v704) (b := Cert.KernelIdeal.main_cst_132) (y := Cert.KernelIdeal.main_v705) (f := open Cert.KernelIdeal Cert.KernelIdeal.Gen in (fun x v => Host.reduceAdd (F := Ideal) x v reducesTo_S2048x2048_S2048_d1 h_S_)) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part43 (List.getElem_mem (l := Cert.ReferenceIdeal.Hand.ops_part43 (F := Ideal)) (n := 54) (by decide))) rfl rfl rfl (by decide) (by decide) (a := Cert.ReferenceIdeal.main_v2172) (b := Cert.ReferenceIdeal.main_cst_456) (y := Cert.ReferenceIdeal.main_v2173) (f := open Cert.ReferenceIdeal Cert.ReferenceIdeal.Gen in (fun x v => Host.reduceAdd (F := Ideal) x v reducesTo_S2048x2048_S2048_d1 h_S_)) (ha := ⟨by decide, rfl⟩) (hb := ⟨by decide, rfl⟩) (hy := ⟨by decide, rfl⟩)
  rw [hk, hr, ← c_main_v704__main_v2172 hag hel, ← c_main_cst_132__main_cst_456 hag hel]

theorem c_main_v706__main_v2174 : StableHlo.after Cert.KernelIdeal.Hand.KOps (Cert.KernelIdeal.Hand.Wl (F := Ideal) m ρ c) (Proc.devRef .tc Cert.KernelIdeal.main_v706) = StableHlo.after (Cert.ReferenceIdeal.Hand.ops (F := Ideal)) (StableHlo.launchContents m' c) (Proc.devRef .tc Cert.ReferenceIdeal.main_v2174) := by
  have hk := StableHlo.Ascending.eq_unary Cert.KernelIdeal.Hand.KOps_asc (Cert.KernelIdeal.Hand.Wl m ρ c) (Cert.KernelIdeal.Hand.mem_KOps_st9 (Cert.KernelIdeal.Hand.mem_st_9 (List.getElem_mem (l := Cert.KernelIdeal.GenP.hostOps9 (F := Ideal)) (n := 8) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part43 (List.getElem_mem (l := Cert.ReferenceIdeal.Hand.ops_part43 (F := Ideal)) (n := 55) (by decide))) rfl rfl (by decide) (hx := ⟨by decide, rfl⟩) (hy := ⟨by decide, rfl⟩)
  rw [hk, hr, ← c_main_v705__main_v2173 hag hel]

theorem c_main_v707__main_v2175 : StableHlo.after Cert.KernelIdeal.Hand.KOps (Cert.KernelIdeal.Hand.Wl (F := Ideal) m ρ c) (Proc.devRef .tc Cert.KernelIdeal.main_v707) = StableHlo.after (Cert.ReferenceIdeal.Hand.ops (F := Ideal)) (StableHlo.launchContents m' c) (Proc.devRef .tc Cert.ReferenceIdeal.main_v2175) := by
  have hk := StableHlo.Ascending.eq_unary Cert.KernelIdeal.Hand.KOps_asc (Cert.KernelIdeal.Hand.Wl m ρ c) (Cert.KernelIdeal.Hand.mem_KOps_st9 (Cert.KernelIdeal.Hand.mem_st_9 (List.getElem_mem (l := Cert.KernelIdeal.GenP.hostOps9 (F := Ideal)) (n := 9) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part43 (List.getElem_mem (l := Cert.ReferenceIdeal.Hand.ops_part43 (F := Ideal)) (n := 56) (by decide))) rfl rfl (by decide) (hx := ⟨by decide, rfl⟩) (hy := ⟨by decide, rfl⟩)
  rw [hk, hr, ← c_main_v706__main_v2174 hag hel]

theorem c_main_v708__main_v2176 : StableHlo.after Cert.KernelIdeal.Hand.KOps (Cert.KernelIdeal.Hand.Wl (F := Ideal) m ρ c) (Proc.devRef .tc Cert.KernelIdeal.main_v708) = StableHlo.after (Cert.ReferenceIdeal.Hand.ops (F := Ideal)) (StableHlo.launchContents m' c) (Proc.devRef .tc Cert.ReferenceIdeal.main_v2176) := by
  have hk := StableHlo.Ascending.eq_binary Cert.KernelIdeal.Hand.KOps_asc (Cert.KernelIdeal.Hand.Wl m ρ c) (Cert.KernelIdeal.Hand.mem_KOps_st9 (Cert.KernelIdeal.Hand.mem_st_9 (List.getElem_mem (l := Cert.KernelIdeal.GenP.hostOps9 (F := Ideal)) (n := 10) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part43 (List.getElem_mem (l := Cert.ReferenceIdeal.Hand.ops_part43 (F := Ideal)) (n := 57) (by decide))) rfl rfl rfl (by decide) (by decide) (ha := ⟨by decide, rfl⟩) (hb := ⟨by decide, rfl⟩) (hy := ⟨by decide, rfl⟩)
  rw [hk, hr, ← c_main_v24__main_v122 hag hel, ← c_main_v707__main_v2175 hag hel]

theorem c_main_cst_133__main_cst_457 : StableHlo.after Cert.KernelIdeal.Hand.KOps (Cert.KernelIdeal.Hand.Wl (F := Ideal) m ρ c) (Proc.devRef .tc Cert.KernelIdeal.main_cst_133) = StableHlo.after (Cert.ReferenceIdeal.Hand.ops (F := Ideal)) (StableHlo.launchContents m' c) (Proc.devRef .tc Cert.ReferenceIdeal.main_cst_457) := by
  have hk := StableHlo.Ascending.eq_nullary Cert.KernelIdeal.Hand.KOps_asc (Cert.KernelIdeal.Hand.Wl m ρ c) (Cert.KernelIdeal.Hand.mem_KOps_st9 (Cert.KernelIdeal.Hand.mem_st_9 (List.getElem_mem (l := Cert.KernelIdeal.GenP.hostOps9 (F := Ideal)) (n := 11) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part43 (List.getElem_mem (l := Cert.ReferenceIdeal.Hand.ops_part43 (F := Ideal)) (n := 58) (by decide))) rfl (hy := ⟨by decide, rfl⟩)
  rw [hk, hr]

theorem c_main_v709__main_v2177 : StableHlo.after Cert.KernelIdeal.Hand.KOps (Cert.KernelIdeal.Hand.Wl (F := Ideal) m ρ c) (Proc.devRef .tc Cert.KernelIdeal.main_v709) = StableHlo.after (Cert.ReferenceIdeal.Hand.ops (F := Ideal)) (StableHlo.launchContents m' c) (Proc.devRef .tc Cert.ReferenceIdeal.main_v2177) := by
  have hk := StableHlo.Ascending.eq_binary Cert.KernelIdeal.Hand.KOps_asc (Cert.KernelIdeal.Hand.Wl m ρ c) (Cert.KernelIdeal.Hand.mem_KOps_st9 (Cert.KernelIdeal.Hand.mem_st_9 (List.getElem_mem (l := Cert.KernelIdeal.GenP.hostOps9 (F := Ideal)) (n := 12) (by decide)))) rfl rfl rfl (by decide) (by decide) (a := Cert.KernelIdeal.main_v708) (b := Cert.KernelIdeal.main_cst_133) (y := Cert.KernelIdeal.main_v709) (f := open Cert.KernelIdeal Cert.KernelIdeal.Gen in (fun x v => Host.reduceAdd (F := Ideal) x v reducesTo_S2048x2048_S2048_d0 h_S_)) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part43 (List.getElem_mem (l := Cert.ReferenceIdeal.Hand.ops_part43 (F := Ideal)) (n := 59) (by decide))) rfl rfl rfl (by decide) (by decide) (a := Cert.ReferenceIdeal.main_v2176) (b := Cert.ReferenceIdeal.main_cst_457) (y := Cert.ReferenceIdeal.main_v2177) (f := open Cert.ReferenceIdeal Cert.ReferenceIdeal.Gen in (fun x v => Host.reduceAdd (F := Ideal) x v reducesTo_S2048x2048_S2048_d0 h_S_)) (ha := ⟨by decide, rfl⟩) (hb := ⟨by decide, rfl⟩) (hy := ⟨by decide, rfl⟩)
  rw [hk, hr, ← c_main_v708__main_v2176 hag hel, ← c_main_cst_133__main_cst_457 hag hel]

theorem c_main_v710__main_v2178 : StableHlo.after Cert.KernelIdeal.Hand.KOps (Cert.KernelIdeal.Hand.Wl (F := Ideal) m ρ c) (Proc.devRef .tc Cert.KernelIdeal.main_v710) = StableHlo.after (Cert.ReferenceIdeal.Hand.ops (F := Ideal)) (StableHlo.launchContents m' c) (Proc.devRef .tc Cert.ReferenceIdeal.main_v2178) := by
  have hk := StableHlo.Ascending.eq_unary Cert.KernelIdeal.Hand.KOps_asc (Cert.KernelIdeal.Hand.Wl m ρ c) (Cert.KernelIdeal.Hand.mem_KOps_st9 (Cert.KernelIdeal.Hand.mem_st_9 (List.getElem_mem (l := Cert.KernelIdeal.GenP.hostOps9 (F := Ideal)) (n := 13) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part43 (List.getElem_mem (l := Cert.ReferenceIdeal.Hand.ops_part43 (F := Ideal)) (n := 60) (by decide))) rfl rfl (by decide) (hx := ⟨by decide, rfl⟩) (hy := ⟨by decide, rfl⟩)
  rw [hk, hr, ← c_main_v709__main_v2177 hag hel]

theorem c_main_v711__main_v2140 : StableHlo.after Cert.KernelIdeal.Hand.KOps (Cert.KernelIdeal.Hand.Wl (F := Ideal) m ρ c) (Proc.devRef .tc Cert.KernelIdeal.main_v711) = StableHlo.after (Cert.ReferenceIdeal.Hand.ops (F := Ideal)) (StableHlo.launchContents m' c) (Proc.devRef .tc Cert.ReferenceIdeal.main_v2140) := by
  have hk := StableHlo.Ascending.eq_unary Cert.KernelIdeal.Hand.KOps_asc (Cert.KernelIdeal.Hand.Wl m ρ c) (Cert.KernelIdeal.Hand.mem_KOps_st9 (Cert.KernelIdeal.Hand.mem_st_9 (List.getElem_mem (l := Cert.KernelIdeal.GenP.hostOps9 (F := Ideal)) (n := 14) (by decide)))) rfl rfl (by decide) (x := Cert.KernelIdeal.main_v675) (y := Cert.KernelIdeal.main_v711) (f := open Cert.KernelIdeal Cert.KernelIdeal.Gen in (extractStridedSlice S16x1 ![0, 0] · slices_S16x2_S16x1_0_0)) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part43 (List.getElem_mem (l := Cert.ReferenceIdeal.Hand.ops_part43 (F := Ideal)) (n := 12) (by decide))) rfl rfl (by decide) (x := Cert.ReferenceIdeal.main_v2139) (y := Cert.ReferenceIdeal.main_v2140) (f := open Cert.ReferenceIdeal Cert.ReferenceIdeal.Gen in (extractStridedSlice S16x1 ![0, 0] · slices_S16x2_S16x1_0_0)) (hx := ⟨by decide, rfl⟩) (hy := ⟨by decide, rfl⟩)
  rw [hk, hr, ← c_main_v675__main_v2139 hag hel]

theorem c_main_v712__main_v2141 : StableHlo.after Cert.KernelIdeal.Hand.KOps (Cert.KernelIdeal.Hand.Wl (F := Ideal) m ρ c) (Proc.devRef .tc Cert.KernelIdeal.main_v712) = StableHlo.after (Cert.ReferenceIdeal.Hand.ops (F := Ideal)) (StableHlo.launchContents m' c) (Proc.devRef .tc Cert.ReferenceIdeal.main_v2141) := by
  have hk := StableHlo.Ascending.eq_unary Cert.KernelIdeal.Hand.KOps_asc (Cert.KernelIdeal.Hand.Wl m ρ c) (Cert.KernelIdeal.Hand.mem_KOps_st9 (Cert.KernelIdeal.Hand.mem_st_9 (List.getElem_mem (l := Cert.KernelIdeal.GenP.hostOps9 (F := Ideal)) (n := 15) (by decide)))) rfl rfl (by decide) (x := Cert.KernelIdeal.main_v675) (y := Cert.KernelIdeal.main_v712) (f := open Cert.KernelIdeal Cert.KernelIdeal.Gen in (extractStridedSlice S16x1 ![0, 1] · slices_S16x2_S16x1_0_1)) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part43 (List.getElem_mem (l := Cert.ReferenceIdeal.Hand.ops_part43 (F := Ideal)) (n := 13) (by decide))) rfl rfl (by decide) (x := Cert.ReferenceIdeal.main_v2139) (y := Cert.ReferenceIdeal.main_v2141) (f := open Cert.ReferenceIdeal Cert.ReferenceIdeal.Gen in (extractStridedSlice S16x1 ![0, 1] · slices_S16x2_S16x1_0_1)) (hx := ⟨by decide, rfl⟩) (hy := ⟨by decide, rfl⟩)
  rw [hk, hr, ← c_main_v675__main_v2139 hag hel]

theorem c_main_v713__main_v2142 : StableHlo.after Cert.KernelIdeal.Hand.KOps (Cert.KernelIdeal.Hand.Wl (F := Ideal) m ρ c) (Proc.devRef .tc Cert.KernelIdeal.main_v713) = StableHlo.after (Cert.ReferenceIdeal.Hand.ops (F := Ideal)) (StableHlo.launchContents m' c) (Proc.devRef .tc Cert.ReferenceIdeal.main_v2142) := by
  have hk := StableHlo.Ascending.eq_reshape Cert.KernelIdeal.Hand.KOps_asc (Cert.KernelIdeal.Hand.Wl m ρ c) (Cert.KernelIdeal.Hand.mem_KOps_st9 (Cert.KernelIdeal.Hand.mem_st_9 (List.getElem_mem (l := Cert.KernelIdeal.GenP.hostOps9 (F := Ideal)) (n := 16) (by decide)))) rfl rfl (by decide) (x := Cert.KernelIdeal.main_arg8) (y := Cert.KernelIdeal.main_v713) (he := rfl) (hn := Cert.KernelIdeal.Gen.shapeCasts_S1x256x8_S256x8) (hx := ⟨by decide, rfl⟩) (hy := ⟨by decide, rfl⟩)
  have hr := StableHlo.Ascending.eq_reshape (Cert.ReferenceIdeal.Hand.ops_asc (F := Ideal)) (StableHlo.launchContents m' c) (Cert.ReferenceIdeal.Hand.mem_ops_part43 (List.getElem_mem (l := Cert.ReferenceIdeal.Hand.ops_part43 (F := Ideal)) (n := 14) (by decide))) rfl rfl (by decide) (x := Cert.ReferenceIdeal.main_arg8) (y := Cert.ReferenceIdeal.main_v2142) (he := rfl) (hn := Cert.ReferenceIdeal.Gen.shapeCasts_S1x256x8_S256x8) (hx := ⟨by decide, rfl⟩) (hy := ⟨by decide, rfl⟩)
  rw [hk, hr, ← c_main_arg8__main_arg8 hag hel]
  rfl

theorem c_main_v714__main_v2179 : StableHlo.after Cert.KernelIdeal.Hand.KOps (Cert.KernelIdeal.Hand.Wl (F := Ideal) m ρ c) (Proc.devRef .tc Cert.KernelIdeal.main_v714) = StableHlo.after (Cert.ReferenceIdeal.Hand.ops (F := Ideal)) (StableHlo.launchContents m' c) (Proc.devRef .tc Cert.ReferenceIdeal.main_v2179) := by
  have hk := StableHlo.Ascending.eq_binary Cert.KernelIdeal.Hand.KOps_asc (Cert.KernelIdeal.Hand.Wl m ρ c) (Cert.KernelIdeal.Hand.mem_KOps_st9 (Cert.KernelIdeal.Hand.mem_st_9 (List.getElem_mem (l := Cert.KernelIdeal.GenP.hostOps9 (F := Ideal)) (n := 17) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part43 (List.getElem_mem (l := Cert.ReferenceIdeal.Hand.ops_part43 (F := Ideal)) (n := 61) (by decide))) rfl rfl rfl (by decide) (by decide) (ha := ⟨by decide, rfl⟩) (hb := ⟨by decide, rfl⟩) (hy := ⟨by decide, rfl⟩)
  rw [hk, hr, ← c_main_v555__main_v1773 hag hel, ← c_main_v713__main_v2142 hag hel]
  rfl

theorem c_main_v715__main_v2180 : StableHlo.after Cert.KernelIdeal.Hand.KOps (Cert.KernelIdeal.Hand.Wl (F := Ideal) m ρ c) (Proc.devRef .tc Cert.KernelIdeal.main_v715) = StableHlo.after (Cert.ReferenceIdeal.Hand.ops (F := Ideal)) (StableHlo.launchContents m' c) (Proc.devRef .tc Cert.ReferenceIdeal.main_v2180) := by
  have hk := StableHlo.Ascending.eq_binary Cert.KernelIdeal.Hand.KOps_asc (Cert.KernelIdeal.Hand.Wl m ρ c) (Cert.KernelIdeal.Hand.mem_KOps_st9 (Cert.KernelIdeal.Hand.mem_st_9 (List.getElem_mem (l := Cert.KernelIdeal.GenP.hostOps9 (F := Ideal)) (n := 18) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part44 (List.getElem_mem (l := Cert.ReferenceIdeal.Hand.ops_part44 (F := Ideal)) (n := 0) (by decide))) rfl rfl rfl (by decide) (by decide) (ha := ⟨by decide, rfl⟩) (hb := ⟨by decide, rfl⟩) (hy := ⟨by decide, rfl⟩)
  rw [hk, hr, ← c_main_v555__main_v1773 hag hel, ← c_main_v713__main_v2142 hag hel]
  rfl

theorem c_main_v716__main_v2181 : StableHlo.after Cert.KernelIdeal.Hand.KOps (Cert.KernelIdeal.Hand.Wl (F := Ideal) m ρ c) (Proc.devRef .tc Cert.KernelIdeal.main_v716) = StableHlo.after (Cert.ReferenceIdeal.Hand.ops (F := Ideal)) (StableHlo.launchContents m' c) (Proc.devRef .tc Cert.ReferenceIdeal.main_v2181) := by
  have hk := StableHlo.Ascending.eq_binary Cert.KernelIdeal.Hand.KOps_asc (Cert.KernelIdeal.Hand.Wl m ρ c) (Cert.KernelIdeal.Hand.mem_KOps_st9 (Cert.KernelIdeal.Hand.mem_st_9 (List.getElem_mem (l := Cert.KernelIdeal.GenP.hostOps9 (F := Ideal)) (n := 19) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part44 (List.getElem_mem (l := Cert.ReferenceIdeal.Hand.ops_part44 (F := Ideal)) (n := 1) (by decide))) rfl rfl rfl (by decide) (by decide) (ha := ⟨by decide, rfl⟩) (hb := ⟨by decide, rfl⟩) (hy := ⟨by decide, rfl⟩)
  rw [hk, hr, ← c_main_v38__main_v137 hag hel, ← c_main_v713__main_v2142 hag hel]
  rfl

theorem c_main_v717__main_v2182 : StableHlo.after Cert.KernelIdeal.Hand.KOps (Cert.KernelIdeal.Hand.Wl (F := Ideal) m ρ c) (Proc.devRef .tc Cert.KernelIdeal.main_v717) = StableHlo.after (Cert.ReferenceIdeal.Hand.ops (F := Ideal)) (StableHlo.launchContents m' c) (Proc.devRef .tc Cert.ReferenceIdeal.main_v2182) := by
  have hk := StableHlo.Ascending.eq_unary Cert.KernelIdeal.Hand.KOps_asc (Cert.KernelIdeal.Hand.Wl m ρ c) (Cert.KernelIdeal.Hand.mem_KOps_st9 (Cert.KernelIdeal.Hand.mem_st_9 (List.getElem_mem (l := Cert.KernelIdeal.GenP.hostOps9 (F := Ideal)) (n := 20) (by decide)))) rfl rfl (by decide) (x := Cert.KernelIdeal.main_v711) (y := Cert.KernelIdeal.main_v717) (f := open Cert.KernelIdeal Cert.KernelIdeal.Gen in (extractStridedSlice S8x1 ![0, 0] · slices_S16x1_S8x1_0_0)) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part44 (List.getElem_mem (l := Cert.ReferenceIdeal.Hand.ops_part44 (F := Ideal)) (n := 2) (by decide))) rfl rfl (by decide) (x := Cert.ReferenceIdeal.main_v2140) (y := Cert.ReferenceIdeal.main_v2182) (f := open Cert.ReferenceIdeal Cert.ReferenceIdeal.Gen in (extractStridedSlice S8x1 ![0, 0] · slices_S16x1_S8x1_0_0)) (hx := ⟨by decide, rfl⟩) (hy := ⟨by decide, rfl⟩)
  rw [hk, hr, ← c_main_v711__main_v2140 hag hel]

theorem c_main_v718__main_v2183 : StableHlo.after Cert.KernelIdeal.Hand.KOps (Cert.KernelIdeal.Hand.Wl (F := Ideal) m ρ c) (Proc.devRef .tc Cert.KernelIdeal.main_v718) = StableHlo.after (Cert.ReferenceIdeal.Hand.ops (F := Ideal)) (StableHlo.launchContents m' c) (Proc.devRef .tc Cert.ReferenceIdeal.main_v2183) := by
  have hk := StableHlo.Ascending.eq_binary Cert.KernelIdeal.Hand.KOps_asc (Cert.KernelIdeal.Hand.Wl m ρ c) (Cert.KernelIdeal.Hand.mem_KOps_st9 (Cert.KernelIdeal.Hand.mem_st_9 (List.getElem_mem (l := Cert.KernelIdeal.GenP.hostOps9 (F := Ideal)) (n := 21) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part44 (List.getElem_mem (l := Cert.ReferenceIdeal.Hand.ops_part44 (F := Ideal)) (n := 3) (by decide))) rfl rfl rfl (by decide) (by decide) (ha := ⟨by decide, rfl⟩) (hb := ⟨by decide, rfl⟩) (hy := ⟨by decide, rfl⟩)
  rw [hk, hr, ← c_main_v715__main_v2180 hag hel, ← c_main_v717__main_v2182 hag hel]
  rfl

theorem c_main_v719__main_v2184 : StableHlo.after Cert.KernelIdeal.Hand.KOps (Cert.KernelIdeal.Hand.Wl (F := Ideal) m ρ c) (Proc.devRef .tc Cert.KernelIdeal.main_v719) = StableHlo.after (Cert.ReferenceIdeal.Hand.ops (F := Ideal)) (StableHlo.launchContents m' c) (Proc.devRef .tc Cert.ReferenceIdeal.main_v2184) := by
  have hk := StableHlo.Ascending.eq_unary Cert.KernelIdeal.Hand.KOps_asc (Cert.KernelIdeal.Hand.Wl m ρ c) (Cert.KernelIdeal.Hand.mem_KOps_st9 (Cert.KernelIdeal.Hand.mem_st_9 (List.getElem_mem (l := Cert.KernelIdeal.GenP.hostOps9 (F := Ideal)) (n := 22) (by decide)))) rfl rfl (by decide) (x := Cert.KernelIdeal.main_v711) (y := Cert.KernelIdeal.main_v719) (f := open Cert.KernelIdeal Cert.KernelIdeal.Gen in (extractStridedSlice S8x1 ![8, 0] · slices_S16x1_S8x1_8_0)) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part44 (List.getElem_mem (l := Cert.ReferenceIdeal.Hand.ops_part44 (F := Ideal)) (n := 4) (by decide))) rfl rfl (by decide) (x := Cert.ReferenceIdeal.main_v2140) (y := Cert.ReferenceIdeal.main_v2184) (f := open Cert.ReferenceIdeal Cert.ReferenceIdeal.Gen in (extractStridedSlice S8x1 ![8, 0] · slices_S16x1_S8x1_8_0)) (hx := ⟨by decide, rfl⟩) (hy := ⟨by decide, rfl⟩)
  rw [hk, hr, ← c_main_v711__main_v2140 hag hel]

theorem c_main_v720__main_v2185 : StableHlo.after Cert.KernelIdeal.Hand.KOps (Cert.KernelIdeal.Hand.Wl (F := Ideal) m ρ c) (Proc.devRef .tc Cert.KernelIdeal.main_v720) = StableHlo.after (Cert.ReferenceIdeal.Hand.ops (F := Ideal)) (StableHlo.launchContents m' c) (Proc.devRef .tc Cert.ReferenceIdeal.main_v2185) := by
  have hk := StableHlo.Ascending.eq_binary Cert.KernelIdeal.Hand.KOps_asc (Cert.KernelIdeal.Hand.Wl m ρ c) (Cert.KernelIdeal.Hand.mem_KOps_st9 (Cert.KernelIdeal.Hand.mem_st_9 (List.getElem_mem (l := Cert.KernelIdeal.GenP.hostOps9 (F := Ideal)) (n := 23) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part44 (List.getElem_mem (l := Cert.ReferenceIdeal.Hand.ops_part44 (F := Ideal)) (n := 5) (by decide))) rfl rfl rfl (by decide) (by decide) (ha := ⟨by decide, rfl⟩) (hb := ⟨by decide, rfl⟩) (hy := ⟨by decide, rfl⟩)
  rw [hk, hr, ← c_main_v716__main_v2181 hag hel, ← c_main_v719__main_v2184 hag hel]
  rfl

theorem c_main_v721__main_v2186 : StableHlo.after Cert.KernelIdeal.Hand.KOps (Cert.KernelIdeal.Hand.Wl (F := Ideal) m ρ c) (Proc.devRef .tc Cert.KernelIdeal.main_v721) = StableHlo.after (Cert.ReferenceIdeal.Hand.ops (F := Ideal)) (StableHlo.launchContents m' c) (Proc.devRef .tc Cert.ReferenceIdeal.main_v2186) := by
  have hk := StableHlo.Ascending.eq_unary Cert.KernelIdeal.Hand.KOps_asc (Cert.KernelIdeal.Hand.Wl m ρ c) (Cert.KernelIdeal.Hand.mem_KOps_st9 (Cert.KernelIdeal.Hand.mem_st_9 (List.getElem_mem (l := Cert.KernelIdeal.GenP.hostOps9 (F := Ideal)) (n := 24) (by decide)))) rfl rfl (by decide) (x := Cert.KernelIdeal.main_v720) (y := Cert.KernelIdeal.main_v721) (f := open Cert.KernelIdeal Cert.KernelIdeal.Gen in (transpose S1x2048 [1, 0] · transposes_S2048x1_S1x2048_1_0)) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part44 (List.getElem_mem (l := Cert.ReferenceIdeal.Hand.ops_part44 (F := Ideal)) (n := 6) (by decide))) rfl rfl (by decide) (x := Cert.ReferenceIdeal.main_v2185) (y := Cert.ReferenceIdeal.main_v2186) (f := open Cert.ReferenceIdeal Cert.ReferenceIdeal.Gen in (transpose S1x2048 [1, 0] · transposes_S2048x1_S1x2048_1_0)) (hx := ⟨by decide, rfl⟩) (hy := ⟨by decide, rfl⟩)
  rw [hk, hr, ← c_main_v720__main_v2185 hag hel]

theorem c_main_v722__main_v2187 : StableHlo.after Cert.KernelIdeal.Hand.KOps (Cert.KernelIdeal.Hand.Wl (F := Ideal) m ρ c) (Proc.devRef .tc Cert.KernelIdeal.main_v722) = StableHlo.after (Cert.ReferenceIdeal.Hand.ops (F := Ideal)) (StableHlo.launchContents m' c) (Proc.devRef .tc Cert.ReferenceIdeal.main_v2187) := by
  have hk := StableHlo.Ascending.eq_unary Cert.KernelIdeal.Hand.KOps_asc (Cert.KernelIdeal.Hand.Wl m ρ c) (Cert.KernelIdeal.Hand.mem_KOps_st9 (Cert.KernelIdeal.Hand.mem_st_9 (List.getElem_mem (l := Cert.KernelIdeal.GenP.hostOps9 (F := Ideal)) (n := 25) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part44 (List.getElem_mem (l := Cert.ReferenceIdeal.Hand.ops_part44 (F := Ideal)) (n := 7) (by decide))) rfl rfl (by decide) (hx := ⟨by decide, rfl⟩) (hy := ⟨by decide, rfl⟩)
  rw [hk, hr, ← c_main_v718__main_v2183 hag hel]

theorem c_main_v723__main_v2188 : StableHlo.after Cert.KernelIdeal.Hand.KOps (Cert.KernelIdeal.Hand.Wl (F := Ideal) m ρ c) (Proc.devRef .tc Cert.KernelIdeal.main_v723) = StableHlo.after (Cert.ReferenceIdeal.Hand.ops (F := Ideal)) (StableHlo.launchContents m' c) (Proc.devRef .tc Cert.ReferenceIdeal.main_v2188) := by
  have hk := StableHlo.Ascending.eq_unary Cert.KernelIdeal.Hand.KOps_asc (Cert.KernelIdeal.Hand.Wl m ρ c) (Cert.KernelIdeal.Hand.mem_KOps_st9 (Cert.KernelIdeal.Hand.mem_st_9 (List.getElem_mem (l := Cert.KernelIdeal.GenP.hostOps9 (F := Ideal)) (n := 26) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part44 (List.getElem_mem (l := Cert.ReferenceIdeal.Hand.ops_part44 (F := Ideal)) (n := 8) (by decide))) rfl rfl (by decide) (hx := ⟨by decide, rfl⟩) (hy := ⟨by decide, rfl⟩)
  rw [hk, hr, ← c_main_v721__main_v2186 hag hel]

theorem c_main_v724__main_v2189 : StableHlo.after Cert.KernelIdeal.Hand.KOps (Cert.KernelIdeal.Hand.Wl (F := Ideal) m ρ c) (Proc.devRef .tc Cert.KernelIdeal.main_v724) = StableHlo.after (Cert.ReferenceIdeal.Hand.ops (F := Ideal)) (StableHlo.launchContents m' c) (Proc.devRef .tc Cert.ReferenceIdeal.main_v2189) := by
  have hk := StableHlo.Ascending.eq_binary Cert.KernelIdeal.Hand.KOps_asc (Cert.KernelIdeal.Hand.Wl m ρ c) (Cert.KernelIdeal.Hand.mem_KOps_st9 (Cert.KernelIdeal.Hand.mem_st_9 (List.getElem_mem (l := Cert.KernelIdeal.GenP.hostOps9 (F := Ideal)) (n := 27) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part44 (List.getElem_mem (l := Cert.ReferenceIdeal.Hand.ops_part44 (F := Ideal)) (n := 9) (by decide))) rfl rfl rfl (by decide) (by decide) (ha := ⟨by decide, rfl⟩) (hb := ⟨by decide, rfl⟩) (hy := ⟨by decide, rfl⟩)
  rw [hk, hr, ← c_main_v722__main_v2187 hag hel, ← c_main_v723__main_v2188 hag hel]

end Cert.Value

end
-- ==== Proof.Val.C020.lean ====
/- Steps C020 of the value claim's chain: for each listed pair, the kernel program's buffer and its reference twin hold equal contents at the two programs' final
   valuations — the two operations are the same function (read off the two operation lists) of operands already paired. A table; written by: bun scratch/corr.js 60 -/
import proofs.«146970_j35948876268088_1_alg».proof.Proof.Val.Seed
import proofs.«146970_j35948876268088_1_alg».proof.Proof.KI.Dots
import Mathlib.Tactic.FinCases
import proofs.«146970_j35948876268088_1_alg».proof.Proof.Val.C000
import proofs.«146970_j35948876268088_1_alg».proof.Proof.Val.C019

set_option maxRecDepth 16384

noncomputable section

namespace Cert.Value

open Idealize.ShloMosaic Idealize.ShloMosaic.TcCoe Idealize.SL.Sem

variable {m : (ℓ : Loc Cert.KernelIdeal.nD Cert.KernelIdeal.τ Cert.KernelIdeal.sig) → Buf (Elt Ideal) ℓ} {ρ : Dev Cert.KernelIdeal.nD → PrngReg}
  {m' : (ℓ : Loc Cert.ReferenceIdeal.nD Cert.ReferenceIdeal.τ Cert.ReferenceIdeal.sig) → Buf (Elt Ideal) ℓ} {c : Dev Cert.KernelIdeal.nD} (hag : Agree m m') (hel : Els m' c)
include hag hel

theorem c_main_cst_134__main_cst_458 : StableHlo.after Cert.KernelIdeal.Hand.KOps (Cert.KernelIdeal.Hand.Wl (F := Ideal) m ρ c) (Proc.devRef .tc Cert.KernelIdeal.main_cst_134) = StableHlo.after (Cert.ReferenceIdeal.Hand.ops (F := Ideal)) (StableHlo.launchContents m' c) (Proc.devRef .tc Cert.ReferenceIdeal.main_cst_458) := by
  have hk := StableHlo.Ascending.eq_nullary Cert.KernelIdeal.Hand.KOps_asc (Cert.KernelIdeal.Hand.Wl m ρ c) (Cert.KernelIdeal.Hand.mem_KOps_st9 (Cert.KernelIdeal.Hand.mem_st_9 (List.getElem_mem (l := Cert.KernelIdeal.GenP.hostOps9 (F := Ideal)) (n := 28) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part44 (List.getElem_mem (l := Cert.ReferenceIdeal.Hand.ops_part44 (F := Ideal)) (n := 10) (by decide))) rfl (hy := ⟨by decide, rfl⟩)
  rw [hk, hr]

theorem c_main_call27_cst__main_call102_cst : StableHlo.after Cert.KernelIdeal.Hand.KOps (Cert.KernelIdeal.Hand.Wl (F := Ideal) m ρ c) (Proc.devRef .tc Cert.KernelIdeal.main_call27_cst) = StableHlo.after (Cert.ReferenceIdeal.Hand.ops (F := Ideal)) (StableHlo.launchContents m' c) (Proc.devRef .tc Cert.ReferenceIdeal.main_call102_cst) := by
  have hk := StableHlo.Ascending.eq_nullary Cert.KernelIdeal.Hand.KOps_asc (Cert.KernelIdeal.Hand.Wl m ρ c) (Cert.KernelIdeal.Hand.mem_KOps_st9 (Cert.KernelIdeal.Hand.mem_st_9_1 (List.getElem_mem (l := Cert.KernelIdeal.GenP.hostOps9_1 (F := Ideal)) (n := 0) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part44 (List.getElem_mem (l := Cert.ReferenceIdeal.Hand.ops_part44 (F := Ideal)) (n := 11) (by decide))) rfl (hy := ⟨by decide, rfl⟩)
  rw [hk, hr]

theorem c_main_call27_v0__main_call102_v0 : StableHlo.after Cert.KernelIdeal.Hand.KOps (Cert.KernelIdeal.Hand.Wl (F := Ideal) m ρ c) (Proc.devRef .tc Cert.KernelIdeal.main_call27_v0) = StableHlo.after (Cert.ReferenceIdeal.Hand.ops (F := Ideal)) (StableHlo.launchContents m' c) (Proc.devRef .tc Cert.ReferenceIdeal.main_call102_v0) := by
  have hk := StableHlo.Ascending.eq_unary Cert.KernelIdeal.Hand.KOps_asc (Cert.KernelIdeal.Hand.Wl m ρ c) (Cert.KernelIdeal.Hand.mem_KOps_st9 (Cert.KernelIdeal.Hand.mem_st_9_1 (List.getElem_mem (l := Cert.KernelIdeal.GenP.hostOps9_1 (F := Ideal)) (n := 1) (by decide)))) rfl rfl (by decide) (x := Cert.KernelIdeal.main_call27_cst) (y := Cert.KernelIdeal.main_call27_v0) (f := open Cert.KernelIdeal Cert.KernelIdeal.Gen in (broadcastInDim S2048x2048 ![] bcast_S_S2048x2048)) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part44 (List.getElem_mem (l := Cert.ReferenceIdeal.Hand.ops_part44 (F := Ideal)) (n := 12) (by decide))) rfl rfl (by decide) (x := Cert.ReferenceIdeal.main_call102_cst) (y := Cert.ReferenceIdeal.main_call102_v0) (f := open Cert.ReferenceIdeal Cert.ReferenceIdeal.Gen in (broadcastInDim S2048x2048 ![] bcast_S_S2048x2048)) (hx := ⟨by decide, rfl⟩) (hy := ⟨by decide, rfl⟩)
  rw [hk, hr, ← c_main_call27_cst__main_call102_cst hag hel]

theorem c_main_call27_v1__main_call102_v1 : StableHlo.after Cert.KernelIdeal.Hand.KOps (Cert.KernelIdeal.Hand.Wl (F := Ideal) m ρ c) (Proc.devRef .tc Cert.KernelIdeal.main_call27_v1) = StableHlo.after (Cert.ReferenceIdeal.Hand.ops (F := Ideal)) (StableHlo.launchContents m' c) (Proc.devRef .tc Cert.ReferenceIdeal.main_call102_v1) := by
  have hk := StableHlo.Ascending.eq_binary Cert.KernelIdeal.Hand.KOps_asc (Cert.KernelIdeal.Hand.Wl m ρ c) (Cert.KernelIdeal.Hand.mem_KOps_st9 (Cert.KernelIdeal.Hand.mem_st_9_1 (List.getElem_mem (l := Cert.KernelIdeal.GenP.hostOps9_1 (F := Ideal)) (n := 2) (by decide)))) rfl rfl rfl (by decide) (by decide) (a := Cert.KernelIdeal.main_v724) (b := Cert.KernelIdeal.main_call27_v0) (y := Cert.KernelIdeal.main_call27_v1) (f := open Cert.KernelIdeal Cert.KernelIdeal.Gen in (cmpf (F := Ideal) .oge)) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part44 (List.getElem_mem (l := Cert.ReferenceIdeal.Hand.ops_part44 (F := Ideal)) (n := 13) (by decide))) rfl rfl rfl (by decide) (by decide) (a := Cert.ReferenceIdeal.main_v2189) (b := Cert.ReferenceIdeal.main_call102_v0) (y := Cert.ReferenceIdeal.main_call102_v1) (f := open Cert.ReferenceIdeal Cert.ReferenceIdeal.Gen in (cmpf (F := Ideal) .oge)) (ha := ⟨by decide, rfl⟩) (hb := ⟨by decide, rfl⟩) (hy := ⟨by decide, rfl⟩)
  rw [hk, hr, ← c_main_v724__main_v2189 hag hel, ← c_main_call27_v0__main_call102_v0 hag hel]

theorem c_main_call27_v2__main_call102_v2 : StableHlo.after Cert.KernelIdeal.Hand.KOps (Cert.KernelIdeal.Hand.Wl (F := Ideal) m ρ c) (Proc.devRef .tc Cert.KernelIdeal.main_call27_v2) = StableHlo.after (Cert.ReferenceIdeal.Hand.ops (F := Ideal)) (StableHlo.launchContents m' c) (Proc.devRef .tc Cert.ReferenceIdeal.main_call102_v2) := by
  have hk := StableHlo.Ascending.eq_unary Cert.KernelIdeal.Hand.KOps_asc (Cert.KernelIdeal.Hand.Wl m ρ c) (Cert.KernelIdeal.Hand.mem_KOps_st9 (Cert.KernelIdeal.Hand.mem_st_9_1 (List.getElem_mem (l := Cert.KernelIdeal.GenP.hostOps9_1 (F := Ideal)) (n := 3) (by decide)))) rfl rfl (by decide) (x := Cert.KernelIdeal.main_cst_134) (y := Cert.KernelIdeal.main_call27_v2) (f := open Cert.KernelIdeal Cert.KernelIdeal.Gen in id) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part44 (List.getElem_mem (l := Cert.ReferenceIdeal.Hand.ops_part44 (F := Ideal)) (n := 14) (by decide))) rfl rfl (by decide) (x := Cert.ReferenceIdeal.main_cst_458) (y := Cert.ReferenceIdeal.main_call102_v2) (f := open Cert.ReferenceIdeal Cert.ReferenceIdeal.Gen in id) (hx := ⟨by decide, rfl⟩) (hy := ⟨by decide, rfl⟩)
  rw [hk, hr, ← c_main_cst_134__main_cst_458 hag hel]

theorem c_main_call27_v3__main_call102_v3 : StableHlo.after Cert.KernelIdeal.Hand.KOps (Cert.KernelIdeal.Hand.Wl (F := Ideal) m ρ c) (Proc.devRef .tc Cert.KernelIdeal.main_call27_v3) = StableHlo.after (Cert.ReferenceIdeal.Hand.ops (F := Ideal)) (StableHlo.launchContents m' c) (Proc.devRef .tc Cert.ReferenceIdeal.main_call102_v3) := by
  have hk := StableHlo.Ascending.eq_unary Cert.KernelIdeal.Hand.KOps_asc (Cert.KernelIdeal.Hand.Wl m ρ c) (Cert.KernelIdeal.Hand.mem_KOps_st9 (Cert.KernelIdeal.Hand.mem_st_9_1 (List.getElem_mem (l := Cert.KernelIdeal.GenP.hostOps9_1 (F := Ideal)) (n := 4) (by decide)))) rfl rfl (by decide) (x := Cert.KernelIdeal.main_call27_v2) (y := Cert.KernelIdeal.main_call27_v3) (f := open Cert.KernelIdeal Cert.KernelIdeal.Gen in (broadcastInDim S2048x2048 ![] bcast_S_S2048x2048)) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part44 (List.getElem_mem (l := Cert.ReferenceIdeal.Hand.ops_part44 (F := Ideal)) (n := 15) (by decide))) rfl rfl (by decide) (x := Cert.ReferenceIdeal.main_call102_v2) (y := Cert.ReferenceIdeal.main_call102_v3) (f := open Cert.ReferenceIdeal Cert.ReferenceIdeal.Gen in (broadcastInDim S2048x2048 ![] bcast_S_S2048x2048)) (hx := ⟨by decide, rfl⟩) (hy := ⟨by decide, rfl⟩)
  rw [hk, hr, ← c_main_call27_v2__main_call102_v2 hag hel]

theorem c_main_call27_v4__main_call102_v4 : StableHlo.after Cert.KernelIdeal.Hand.KOps (Cert.KernelIdeal.Hand.Wl (F := Ideal) m ρ c) (Proc.devRef .tc Cert.KernelIdeal.main_call27_v4) = StableHlo.after (Cert.ReferenceIdeal.Hand.ops (F := Ideal)) (StableHlo.launchContents m' c) (Proc.devRef .tc Cert.ReferenceIdeal.main_call102_v4) := by
  have hk := StableHlo.Ascending.eq_binary Cert.KernelIdeal.Hand.KOps_asc (Cert.KernelIdeal.Hand.Wl m ρ c) (Cert.KernelIdeal.Hand.mem_KOps_st9 (Cert.KernelIdeal.Hand.mem_st_9_1 (List.getElem_mem (l := Cert.KernelIdeal.GenP.hostOps9_1 (F := Ideal)) (n := 5) (by decide)))) rfl rfl rfl (by decide) (by decide) (a := Cert.KernelIdeal.main_call27_v3) (b := Cert.KernelIdeal.main_v724) (y := Cert.KernelIdeal.main_call27_v4) (f := open Cert.KernelIdeal Cert.KernelIdeal.Gen in mulf (F := Ideal)) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part44 (List.getElem_mem (l := Cert.ReferenceIdeal.Hand.ops_part44 (F := Ideal)) (n := 16) (by decide))) rfl rfl rfl (by decide) (by decide) (a := Cert.ReferenceIdeal.main_call102_v3) (b := Cert.ReferenceIdeal.main_v2189) (y := Cert.ReferenceIdeal.main_call102_v4) (f := open Cert.ReferenceIdeal Cert.ReferenceIdeal.Gen in mulf (F := Ideal)) (ha := ⟨by decide, rfl⟩) (hb := ⟨by decide, rfl⟩) (hy := ⟨by decide, rfl⟩)
  rw [hk, hr, ← c_main_call27_v3__main_call102_v3 hag hel, ← c_main_v724__main_v2189 hag hel]

theorem c_main_v725__main_v2190 : StableHlo.after Cert.KernelIdeal.Hand.KOps (Cert.KernelIdeal.Hand.Wl (F := Ideal) m ρ c) (Proc.devRef .tc Cert.KernelIdeal.main_v725) = StableHlo.after (Cert.ReferenceIdeal.Hand.ops (F := Ideal)) (StableHlo.launchContents m' c) (Proc.devRef .tc Cert.ReferenceIdeal.main_v2190) := by
  have hk := StableHlo.Ascending.eq_ternary Cert.KernelIdeal.Hand.KOps_asc (Cert.KernelIdeal.Hand.Wl m ρ c) (Cert.KernelIdeal.Hand.mem_KOps_st9 (Cert.KernelIdeal.Hand.mem_st_9_1 (List.getElem_mem (l := Cert.KernelIdeal.GenP.hostOps9_1 (F := Ideal)) (n := 6) (by decide)))) rfl rfl rfl rfl (by decide) (by decide) (by decide) (c := Cert.KernelIdeal.main_call27_v1) (a := Cert.KernelIdeal.main_v724) (b := Cert.KernelIdeal.main_call27_v4) (y := Cert.KernelIdeal.main_v725) (f := (select : (⟨Cert.KernelIdeal.S2048x2048, .i1⟩ : BufTy).Contents (Elt Ideal) → (⟨Cert.KernelIdeal.S2048x2048, .f32⟩ : BufTy).Contents (Elt Ideal) → (⟨Cert.KernelIdeal.S2048x2048, .f32⟩ : BufTy).Contents (Elt Ideal) → (⟨Cert.KernelIdeal.S2048x2048, .f32⟩ : BufTy).Contents (Elt Ideal))) (hc := ⟨by decide, rfl⟩) (ha := ⟨by decide, rfl⟩) (hb := ⟨by decide, rfl⟩) (hy := ⟨by decide, rfl⟩)
  have hr := StableHlo.Ascending.eq_ternary (Cert.ReferenceIdeal.Hand.ops_asc (F := Ideal)) (StableHlo.launchContents m' c) (Cert.ReferenceIdeal.Hand.mem_ops_part44 (List.getElem_mem (l := Cert.ReferenceIdeal.Hand.ops_part44 (F := Ideal)) (n := 17) (by decide))) rfl rfl rfl rfl (by decide) (by decide) (by decide) (c := Cert.ReferenceIdeal.main_call102_v1) (a := Cert.ReferenceIdeal.main_v2189) (b := Cert.ReferenceIdeal.main_call102_v4) (y := Cert.ReferenceIdeal.main_v2190) (f := (select : (⟨Cert.ReferenceIdeal.S2048x2048, .i1⟩ : BufTy).Contents (Elt Ideal) → (⟨Cert.ReferenceIdeal.S2048x2048, .f32⟩ : BufTy).Contents (Elt Ideal) → (⟨Cert.ReferenceIdeal.S2048x2048, .f32⟩ : BufTy).Contents (Elt Ideal) → (⟨Cert.ReferenceIdeal.S2048x2048, .f32⟩ : BufTy).Contents (Elt Ideal))) (hc := ⟨by decide, rfl⟩) (ha := ⟨by decide, rfl⟩) (hb := ⟨by decide, rfl⟩) (hy := ⟨by decide, rfl⟩)
  rw [hk, hr, ← c_main_call27_v1__main_call102_v1 hag hel, ← c_main_v724__main_v2189 hag hel, ← c_main_call27_v4__main_call102_v4 hag hel]

theorem c_main_cst_135__main_cst_459 : StableHlo.after Cert.KernelIdeal.Hand.KOps (Cert.KernelIdeal.Hand.Wl (F := Ideal) m ρ c) (Proc.devRef .tc Cert.KernelIdeal.main_cst_135) = StableHlo.after (Cert.ReferenceIdeal.Hand.ops (F := Ideal)) (StableHlo.launchContents m' c) (Proc.devRef .tc Cert.ReferenceIdeal.main_cst_459) := by
  have hk := StableHlo.Ascending.eq_nullary Cert.KernelIdeal.Hand.KOps_asc (Cert.KernelIdeal.Hand.Wl m ρ c) (Cert.KernelIdeal.Hand.mem_KOps_st9 (Cert.KernelIdeal.Hand.mem_st_9_2 (List.getElem_mem (l := Cert.KernelIdeal.GenP.hostOps9_2 (F := Ideal)) (n := 0) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part44 (List.getElem_mem (l := Cert.ReferenceIdeal.Hand.ops_part44 (F := Ideal)) (n := 18) (by decide))) rfl (hy := ⟨by decide, rfl⟩)
  rw [hk, hr]

theorem c_main_v726__main_v2191 : StableHlo.after Cert.KernelIdeal.Hand.KOps (Cert.KernelIdeal.Hand.Wl (F := Ideal) m ρ c) (Proc.devRef .tc Cert.KernelIdeal.main_v726) = StableHlo.after (Cert.ReferenceIdeal.Hand.ops (F := Ideal)) (StableHlo.launchContents m' c) (Proc.devRef .tc Cert.ReferenceIdeal.main_v2191) := by
  have hk := StableHlo.Ascending.eq_binary Cert.KernelIdeal.Hand.KOps_asc (Cert.KernelIdeal.Hand.Wl m ρ c) (Cert.KernelIdeal.Hand.mem_KOps_st9 (Cert.KernelIdeal.Hand.mem_st_9_2 (List.getElem_mem (l := Cert.KernelIdeal.GenP.hostOps9_2 (F := Ideal)) (n := 1) (by decide)))) rfl rfl rfl (by decide) (by decide) (a := Cert.KernelIdeal.main_v706) (b := Cert.KernelIdeal.main_cst_135) (y := Cert.KernelIdeal.main_v726) (f := open Cert.KernelIdeal Cert.KernelIdeal.Gen in (fun x v => Host.reduce (FloatOps.minimumf (F := Ideal)) x v reducesTo_S2048x1_S_d0_1 h_S_)) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part44 (List.getElem_mem (l := Cert.ReferenceIdeal.Hand.ops_part44 (F := Ideal)) (n := 19) (by decide))) rfl rfl rfl (by decide) (by decide) (a := Cert.ReferenceIdeal.main_v2174) (b := Cert.ReferenceIdeal.main_cst_459) (y := Cert.ReferenceIdeal.main_v2191) (f := open Cert.ReferenceIdeal Cert.ReferenceIdeal.Gen in (fun x v => Host.reduce (FloatOps.minimumf (F := Ideal)) x v reducesTo_S2048x1_S_d0_1 h_S_)) (ha := ⟨by decide, rfl⟩) (hb := ⟨by decide, rfl⟩) (hy := ⟨by decide, rfl⟩)
  rw [hk, hr, ← c_main_v706__main_v2174 hag hel, ← c_main_cst_135__main_cst_459 hag hel]

theorem c_main_v727__main_v2192 : StableHlo.after Cert.KernelIdeal.Hand.KOps (Cert.KernelIdeal.Hand.Wl (F := Ideal) m ρ c) (Proc.devRef .tc Cert.KernelIdeal.main_v727) = StableHlo.after (Cert.ReferenceIdeal.Hand.ops (F := Ideal)) (StableHlo.launchContents m' c) (Proc.devRef .tc Cert.ReferenceIdeal.main_v2192) := by
  have hk := StableHlo.Ascending.eq_unary Cert.KernelIdeal.Hand.KOps_asc (Cert.KernelIdeal.Hand.Wl m ρ c) (Cert.KernelIdeal.Hand.mem_KOps_st9 (Cert.KernelIdeal.Hand.mem_st_9_2 (List.getElem_mem (l := Cert.KernelIdeal.GenP.hostOps9_2 (F := Ideal)) (n := 2) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part44 (List.getElem_mem (l := Cert.ReferenceIdeal.Hand.ops_part44 (F := Ideal)) (n := 20) (by decide))) rfl rfl (by decide) (hx := ⟨by decide, rfl⟩) (hy := ⟨by decide, rfl⟩)
  rw [hk, hr, ← c_main_v726__main_v2191 hag hel]

theorem c_main_v728__main_v2193 : StableHlo.after Cert.KernelIdeal.Hand.KOps (Cert.KernelIdeal.Hand.Wl (F := Ideal) m ρ c) (Proc.devRef .tc Cert.KernelIdeal.main_v728) = StableHlo.after (Cert.ReferenceIdeal.Hand.ops (F := Ideal)) (StableHlo.launchContents m' c) (Proc.devRef .tc Cert.ReferenceIdeal.main_v2193) := by
  have hk := StableHlo.Ascending.eq_binary Cert.KernelIdeal.Hand.KOps_asc (Cert.KernelIdeal.Hand.Wl m ρ c) (Cert.KernelIdeal.Hand.mem_KOps_st9 (Cert.KernelIdeal.Hand.mem_st_9_2 (List.getElem_mem (l := Cert.KernelIdeal.GenP.hostOps9_2 (F := Ideal)) (n := 3) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part44 (List.getElem_mem (l := Cert.ReferenceIdeal.Hand.ops_part44 (F := Ideal)) (n := 21) (by decide))) rfl rfl rfl (by decide) (by decide) (ha := ⟨by decide, rfl⟩) (hb := ⟨by decide, rfl⟩) (hy := ⟨by decide, rfl⟩)
  rw [hk, hr, ← c_main_v706__main_v2174 hag hel, ← c_main_v727__main_v2192 hag hel]

theorem c_main_cst_136__main_cst_460 : StableHlo.after Cert.KernelIdeal.Hand.KOps (Cert.KernelIdeal.Hand.Wl (F := Ideal) m ρ c) (Proc.devRef .tc Cert.KernelIdeal.main_cst_136) = StableHlo.after (Cert.ReferenceIdeal.Hand.ops (F := Ideal)) (StableHlo.launchContents m' c) (Proc.devRef .tc Cert.ReferenceIdeal.main_cst_460) := by
  have hk := StableHlo.Ascending.eq_nullary Cert.KernelIdeal.Hand.KOps_asc (Cert.KernelIdeal.Hand.Wl m ρ c) (Cert.KernelIdeal.Hand.mem_KOps_st9 (Cert.KernelIdeal.Hand.mem_st_9_2 (List.getElem_mem (l := Cert.KernelIdeal.GenP.hostOps9_2 (F := Ideal)) (n := 4) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part44 (List.getElem_mem (l := Cert.ReferenceIdeal.Hand.ops_part44 (F := Ideal)) (n := 22) (by decide))) rfl (hy := ⟨by decide, rfl⟩)
  rw [hk, hr]

theorem c_main_v729__main_v2194 : StableHlo.after Cert.KernelIdeal.Hand.KOps (Cert.KernelIdeal.Hand.Wl (F := Ideal) m ρ c) (Proc.devRef .tc Cert.KernelIdeal.main_v729) = StableHlo.after (Cert.ReferenceIdeal.Hand.ops (F := Ideal)) (StableHlo.launchContents m' c) (Proc.devRef .tc Cert.ReferenceIdeal.main_v2194) := by
  have hk := StableHlo.Ascending.eq_binary Cert.KernelIdeal.Hand.KOps_asc (Cert.KernelIdeal.Hand.Wl m ρ c) (Cert.KernelIdeal.Hand.mem_KOps_st9 (Cert.KernelIdeal.Hand.mem_st_9_2 (List.getElem_mem (l := Cert.KernelIdeal.GenP.hostOps9_2 (F := Ideal)) (n := 5) (by decide)))) rfl rfl rfl (by decide) (by decide) (a := Cert.KernelIdeal.main_v706) (b := Cert.KernelIdeal.main_cst_136) (y := Cert.KernelIdeal.main_v729) (f := open Cert.KernelIdeal Cert.KernelIdeal.Gen in (fun x v => Host.reduce (FloatOps.maximumf (F := Ideal)) x v reducesTo_S2048x1_S_d0_1 h_S_)) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part44 (List.getElem_mem (l := Cert.ReferenceIdeal.Hand.ops_part44 (F := Ideal)) (n := 23) (by decide))) rfl rfl rfl (by decide) (by decide) (a := Cert.ReferenceIdeal.main_v2174) (b := Cert.ReferenceIdeal.main_cst_460) (y := Cert.ReferenceIdeal.main_v2194) (f := open Cert.ReferenceIdeal Cert.ReferenceIdeal.Gen in (fun x v => Host.reduce (FloatOps.maximumf (F := Ideal)) x v reducesTo_S2048x1_S_d0_1 h_S_)) (ha := ⟨by decide, rfl⟩) (hb := ⟨by decide, rfl⟩) (hy := ⟨by decide, rfl⟩)
  rw [hk, hr, ← c_main_v706__main_v2174 hag hel, ← c_main_cst_136__main_cst_460 hag hel]

theorem c_main_cst_137__main_cst_461 : StableHlo.after Cert.KernelIdeal.Hand.KOps (Cert.KernelIdeal.Hand.Wl (F := Ideal) m ρ c) (Proc.devRef .tc Cert.KernelIdeal.main_cst_137) = StableHlo.after (Cert.ReferenceIdeal.Hand.ops (F := Ideal)) (StableHlo.launchContents m' c) (Proc.devRef .tc Cert.ReferenceIdeal.main_cst_461) := by
  have hk := StableHlo.Ascending.eq_nullary Cert.KernelIdeal.Hand.KOps_asc (Cert.KernelIdeal.Hand.Wl m ρ c) (Cert.KernelIdeal.Hand.mem_KOps_st9 (Cert.KernelIdeal.Hand.mem_st_9_2 (List.getElem_mem (l := Cert.KernelIdeal.GenP.hostOps9_2 (F := Ideal)) (n := 6) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part44 (List.getElem_mem (l := Cert.ReferenceIdeal.Hand.ops_part44 (F := Ideal)) (n := 24) (by decide))) rfl (hy := ⟨by decide, rfl⟩)
  rw [hk, hr]

theorem c_main_v730__main_v2195 : StableHlo.after Cert.KernelIdeal.Hand.KOps (Cert.KernelIdeal.Hand.Wl (F := Ideal) m ρ c) (Proc.devRef .tc Cert.KernelIdeal.main_v730) = StableHlo.after (Cert.ReferenceIdeal.Hand.ops (F := Ideal)) (StableHlo.launchContents m' c) (Proc.devRef .tc Cert.ReferenceIdeal.main_v2195) := by
  have hk := StableHlo.Ascending.eq_binary Cert.KernelIdeal.Hand.KOps_asc (Cert.KernelIdeal.Hand.Wl m ρ c) (Cert.KernelIdeal.Hand.mem_KOps_st9 (Cert.KernelIdeal.Hand.mem_st_9_2 (List.getElem_mem (l := Cert.KernelIdeal.GenP.hostOps9_2 (F := Ideal)) (n := 7) (by decide)))) rfl rfl rfl (by decide) (by decide) (a := Cert.KernelIdeal.main_v706) (b := Cert.KernelIdeal.main_cst_137) (y := Cert.KernelIdeal.main_v730) (f := open Cert.KernelIdeal Cert.KernelIdeal.Gen in (fun x v => Host.reduce (FloatOps.minimumf (F := Ideal)) x v reducesTo_S2048x1_S_d0_1 h_S_)) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part44 (List.getElem_mem (l := Cert.ReferenceIdeal.Hand.ops_part44 (F := Ideal)) (n := 25) (by decide))) rfl rfl rfl (by decide) (by decide) (a := Cert.ReferenceIdeal.main_v2174) (b := Cert.ReferenceIdeal.main_cst_461) (y := Cert.ReferenceIdeal.main_v2195) (f := open Cert.ReferenceIdeal Cert.ReferenceIdeal.Gen in (fun x v => Host.reduce (FloatOps.minimumf (F := Ideal)) x v reducesTo_S2048x1_S_d0_1 h_S_)) (ha := ⟨by decide, rfl⟩) (hb := ⟨by decide, rfl⟩) (hy := ⟨by decide, rfl⟩)
  rw [hk, hr, ← c_main_v706__main_v2174 hag hel, ← c_main_cst_137__main_cst_461 hag hel]

theorem c_main_v731__main_v2196 : StableHlo.after Cert.KernelIdeal.Hand.KOps (Cert.KernelIdeal.Hand.Wl (F := Ideal) m ρ c) (Proc.devRef .tc Cert.KernelIdeal.main_v731) = StableHlo.after (Cert.ReferenceIdeal.Hand.ops (F := Ideal)) (StableHlo.launchContents m' c) (Proc.devRef .tc Cert.ReferenceIdeal.main_v2196) := by
  have hk := StableHlo.Ascending.eq_binary Cert.KernelIdeal.Hand.KOps_asc (Cert.KernelIdeal.Hand.Wl m ρ c) (Cert.KernelIdeal.Hand.mem_KOps_st9 (Cert.KernelIdeal.Hand.mem_st_9_2 (List.getElem_mem (l := Cert.KernelIdeal.GenP.hostOps9_2 (F := Ideal)) (n := 8) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part44 (List.getElem_mem (l := Cert.ReferenceIdeal.Hand.ops_part44 (F := Ideal)) (n := 26) (by decide))) rfl rfl rfl (by decide) (by decide) (ha := ⟨by decide, rfl⟩) (hb := ⟨by decide, rfl⟩) (hy := ⟨by decide, rfl⟩)
  rw [hk, hr, ← c_main_v729__main_v2194 hag hel, ← c_main_v730__main_v2195 hag hel]

theorem c_main_v732__main_v2197 : StableHlo.after Cert.KernelIdeal.Hand.KOps (Cert.KernelIdeal.Hand.Wl (F := Ideal) m ρ c) (Proc.devRef .tc Cert.KernelIdeal.main_v732) = StableHlo.after (Cert.ReferenceIdeal.Hand.ops (F := Ideal)) (StableHlo.launchContents m' c) (Proc.devRef .tc Cert.ReferenceIdeal.main_v2197) := by
  have hk := StableHlo.Ascending.eq_unary Cert.KernelIdeal.Hand.KOps_asc (Cert.KernelIdeal.Hand.Wl m ρ c) (Cert.KernelIdeal.Hand.mem_KOps_st9 (Cert.KernelIdeal.Hand.mem_st_9_2 (List.getElem_mem (l := Cert.KernelIdeal.GenP.hostOps9_2 (F := Ideal)) (n := 9) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part44 (List.getElem_mem (l := Cert.ReferenceIdeal.Hand.ops_part44 (F := Ideal)) (n := 27) (by decide))) rfl rfl (by decide) (hx := ⟨by decide, rfl⟩) (hy := ⟨by decide, rfl⟩)
  rw [hk, hr, ← c_main_v731__main_v2196 hag hel]

theorem c_main_v733__main_v2198 : StableHlo.after Cert.KernelIdeal.Hand.KOps (Cert.KernelIdeal.Hand.Wl (F := Ideal) m ρ c) (Proc.devRef .tc Cert.KernelIdeal.main_v733) = StableHlo.after (Cert.ReferenceIdeal.Hand.ops (F := Ideal)) (StableHlo.launchContents m' c) (Proc.devRef .tc Cert.ReferenceIdeal.main_v2198) := by
  have hk := StableHlo.Ascending.eq_binary Cert.KernelIdeal.Hand.KOps_asc (Cert.KernelIdeal.Hand.Wl m ρ c) (Cert.KernelIdeal.Hand.mem_KOps_st9 (Cert.KernelIdeal.Hand.mem_st_9_2 (List.getElem_mem (l := Cert.KernelIdeal.GenP.hostOps9_2 (F := Ideal)) (n := 10) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part44 (List.getElem_mem (l := Cert.ReferenceIdeal.Hand.ops_part44 (F := Ideal)) (n := 28) (by decide))) rfl rfl rfl (by decide) (by decide) (ha := ⟨by decide, rfl⟩) (hb := ⟨by decide, rfl⟩) (hy := ⟨by decide, rfl⟩)
  rw [hk, hr, ← c_main_v728__main_v2193 hag hel, ← c_main_v732__main_v2197 hag hel]

theorem c_main_cst_138__main_cst_462 : StableHlo.after Cert.KernelIdeal.Hand.KOps (Cert.KernelIdeal.Hand.Wl (F := Ideal) m ρ c) (Proc.devRef .tc Cert.KernelIdeal.main_cst_138) = StableHlo.after (Cert.ReferenceIdeal.Hand.ops (F := Ideal)) (StableHlo.launchContents m' c) (Proc.devRef .tc Cert.ReferenceIdeal.main_cst_462) := by
  have hk := StableHlo.Ascending.eq_nullary Cert.KernelIdeal.Hand.KOps_asc (Cert.KernelIdeal.Hand.Wl m ρ c) (Cert.KernelIdeal.Hand.mem_KOps_st9 (Cert.KernelIdeal.Hand.mem_st_9_2 (List.getElem_mem (l := Cert.KernelIdeal.GenP.hostOps9_2 (F := Ideal)) (n := 11) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part44 (List.getElem_mem (l := Cert.ReferenceIdeal.Hand.ops_part44 (F := Ideal)) (n := 29) (by decide))) rfl (hy := ⟨by decide, rfl⟩)
  rw [hk, hr]

theorem c_main_v734__main_v2199 : StableHlo.after Cert.KernelIdeal.Hand.KOps (Cert.KernelIdeal.Hand.Wl (F := Ideal) m ρ c) (Proc.devRef .tc Cert.KernelIdeal.main_v734) = StableHlo.after (Cert.ReferenceIdeal.Hand.ops (F := Ideal)) (StableHlo.launchContents m' c) (Proc.devRef .tc Cert.ReferenceIdeal.main_v2199) := by
  have hk := StableHlo.Ascending.eq_binary Cert.KernelIdeal.Hand.KOps_asc (Cert.KernelIdeal.Hand.Wl m ρ c) (Cert.KernelIdeal.Hand.mem_KOps_st9 (Cert.KernelIdeal.Hand.mem_st_9_2 (List.getElem_mem (l := Cert.KernelIdeal.GenP.hostOps9_2 (F := Ideal)) (n := 12) (by decide)))) rfl rfl rfl (by decide) (by decide) (a := Cert.KernelIdeal.main_v725) (b := Cert.KernelIdeal.main_cst_138) (y := Cert.KernelIdeal.main_v734) (f := open Cert.KernelIdeal Cert.KernelIdeal.Gen in (fun x v => Host.reduce (FloatOps.maximumf (F := Ideal)) x v reducesTo_S2048x2048_S_d0_1 h_S_)) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part44 (List.getElem_mem (l := Cert.ReferenceIdeal.Hand.ops_part44 (F := Ideal)) (n := 30) (by decide))) rfl rfl rfl (by decide) (by decide) (a := Cert.ReferenceIdeal.main_v2190) (b := Cert.ReferenceIdeal.main_cst_462) (y := Cert.ReferenceIdeal.main_v2199) (f := open Cert.ReferenceIdeal Cert.ReferenceIdeal.Gen in (fun x v => Host.reduce (FloatOps.maximumf (F := Ideal)) x v reducesTo_S2048x2048_S_d0_1 h_S_)) (ha := ⟨by decide, rfl⟩) (hb := ⟨by decide, rfl⟩) (hy := ⟨by decide, rfl⟩)
  rw [hk, hr, ← c_main_v725__main_v2190 hag hel, ← c_main_cst_138__main_cst_462 hag hel]

theorem c_main_v735__main_v2200 : StableHlo.after Cert.KernelIdeal.Hand.KOps (Cert.KernelIdeal.Hand.Wl (F := Ideal) m ρ c) (Proc.devRef .tc Cert.KernelIdeal.main_v735) = StableHlo.after (Cert.ReferenceIdeal.Hand.ops (F := Ideal)) (StableHlo.launchContents m' c) (Proc.devRef .tc Cert.ReferenceIdeal.main_v2200) := by
  have hk := StableHlo.Ascending.eq_unary Cert.KernelIdeal.Hand.KOps_asc (Cert.KernelIdeal.Hand.Wl m ρ c) (Cert.KernelIdeal.Hand.mem_KOps_st9 (Cert.KernelIdeal.Hand.mem_st_9_2 (List.getElem_mem (l := Cert.KernelIdeal.GenP.hostOps9_2 (F := Ideal)) (n := 13) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part44 (List.getElem_mem (l := Cert.ReferenceIdeal.Hand.ops_part44 (F := Ideal)) (n := 31) (by decide))) rfl rfl (by decide) (hx := ⟨by decide, rfl⟩) (hy := ⟨by decide, rfl⟩)
  rw [hk, hr, ← c_main_v734__main_v2199 hag hel]

theorem c_main_v736__main_v2201 : StableHlo.after Cert.KernelIdeal.Hand.KOps (Cert.KernelIdeal.Hand.Wl (F := Ideal) m ρ c) (Proc.devRef .tc Cert.KernelIdeal.main_v736) = StableHlo.after (Cert.ReferenceIdeal.Hand.ops (F := Ideal)) (StableHlo.launchContents m' c) (Proc.devRef .tc Cert.ReferenceIdeal.main_v2201) := by
  have hk := StableHlo.Ascending.eq_binary Cert.KernelIdeal.Hand.KOps_asc (Cert.KernelIdeal.Hand.Wl m ρ c) (Cert.KernelIdeal.Hand.mem_KOps_st9 (Cert.KernelIdeal.Hand.mem_st_9_2 (List.getElem_mem (l := Cert.KernelIdeal.GenP.hostOps9_2 (F := Ideal)) (n := 14) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part44 (List.getElem_mem (l := Cert.ReferenceIdeal.Hand.ops_part44 (F := Ideal)) (n := 32) (by decide))) rfl rfl rfl (by decide) (by decide) (ha := ⟨by decide, rfl⟩) (hb := ⟨by decide, rfl⟩) (hy := ⟨by decide, rfl⟩)
  rw [hk, hr, ← c_main_v733__main_v2198 hag hel, ← c_main_v735__main_v2200 hag hel]

theorem c_main_cst_139__main_cst_463 : StableHlo.after Cert.KernelIdeal.Hand.KOps (Cert.KernelIdeal.Hand.Wl (F := Ideal) m ρ c) (Proc.devRef .tc Cert.KernelIdeal.main_cst_139) = StableHlo.after (Cert.ReferenceIdeal.Hand.ops (F := Ideal)) (StableHlo.launchContents m' c) (Proc.devRef .tc Cert.ReferenceIdeal.main_cst_463) := by
  have hk := StableHlo.Ascending.eq_nullary Cert.KernelIdeal.Hand.KOps_asc (Cert.KernelIdeal.Hand.Wl m ρ c) (Cert.KernelIdeal.Hand.mem_KOps_st9 (Cert.KernelIdeal.Hand.mem_st_9_2 (List.getElem_mem (l := Cert.KernelIdeal.GenP.hostOps9_2 (F := Ideal)) (n := 15) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part44 (List.getElem_mem (l := Cert.ReferenceIdeal.Hand.ops_part44 (F := Ideal)) (n := 33) (by decide))) rfl (hy := ⟨by decide, rfl⟩)
  rw [hk, hr]

theorem c_main_v737__main_v2202 : StableHlo.after Cert.KernelIdeal.Hand.KOps (Cert.KernelIdeal.Hand.Wl (F := Ideal) m ρ c) (Proc.devRef .tc Cert.KernelIdeal.main_v737) = StableHlo.after (Cert.ReferenceIdeal.Hand.ops (F := Ideal)) (StableHlo.launchContents m' c) (Proc.devRef .tc Cert.ReferenceIdeal.main_v2202) := by
  have hk := StableHlo.Ascending.eq_unary Cert.KernelIdeal.Hand.KOps_asc (Cert.KernelIdeal.Hand.Wl m ρ c) (Cert.KernelIdeal.Hand.mem_KOps_st9 (Cert.KernelIdeal.Hand.mem_st_9_2 (List.getElem_mem (l := Cert.KernelIdeal.GenP.hostOps9_2 (F := Ideal)) (n := 16) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part44 (List.getElem_mem (l := Cert.ReferenceIdeal.Hand.ops_part44 (F := Ideal)) (n := 34) (by decide))) rfl rfl (by decide) (hx := ⟨by decide, rfl⟩) (hy := ⟨by decide, rfl⟩)
  rw [hk, hr, ← c_main_cst_139__main_cst_463 hag hel]

theorem c_main_v738__main_v2203 : StableHlo.after Cert.KernelIdeal.Hand.KOps (Cert.KernelIdeal.Hand.Wl (F := Ideal) m ρ c) (Proc.devRef .tc Cert.KernelIdeal.main_v738) = StableHlo.after (Cert.ReferenceIdeal.Hand.ops (F := Ideal)) (StableHlo.launchContents m' c) (Proc.devRef .tc Cert.ReferenceIdeal.main_v2203) := by
  have hk := StableHlo.Ascending.eq_binary Cert.KernelIdeal.Hand.KOps_asc (Cert.KernelIdeal.Hand.Wl m ρ c) (Cert.KernelIdeal.Hand.mem_KOps_st9 (Cert.KernelIdeal.Hand.mem_st_9_2 (List.getElem_mem (l := Cert.KernelIdeal.GenP.hostOps9_2 (F := Ideal)) (n := 17) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part44 (List.getElem_mem (l := Cert.ReferenceIdeal.Hand.ops_part44 (F := Ideal)) (n := 35) (by decide))) rfl rfl rfl (by decide) (by decide) (ha := ⟨by decide, rfl⟩) (hb := ⟨by decide, rfl⟩) (hy := ⟨by decide, rfl⟩)
  rw [hk, hr, ← c_main_v24__main_v122 hag hel, ← c_main_v737__main_v2202 hag hel]

theorem c_main_v739__main_v2204 : StableHlo.after Cert.KernelIdeal.Hand.KOps (Cert.KernelIdeal.Hand.Wl (F := Ideal) m ρ c) (Proc.devRef .tc Cert.KernelIdeal.main_v739) = StableHlo.after (Cert.ReferenceIdeal.Hand.ops (F := Ideal)) (StableHlo.launchContents m' c) (Proc.devRef .tc Cert.ReferenceIdeal.main_v2204) := by
  have hk := StableHlo.Ascending.eq_unary Cert.KernelIdeal.Hand.KOps_asc (Cert.KernelIdeal.Hand.Wl m ρ c) (Cert.KernelIdeal.Hand.mem_KOps_st9 (Cert.KernelIdeal.Hand.mem_st_9_2 (List.getElem_mem (l := Cert.KernelIdeal.GenP.hostOps9_2 (F := Ideal)) (n := 18) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part44 (List.getElem_mem (l := Cert.ReferenceIdeal.Hand.ops_part44 (F := Ideal)) (n := 36) (by decide))) rfl rfl (by decide) (hx := ⟨by decide, rfl⟩) (hy := ⟨by decide, rfl⟩)
  rw [hk, hr, ← c_main_v736__main_v2201 hag hel]

theorem c_main_v740__main_v2205 : StableHlo.after Cert.KernelIdeal.Hand.KOps (Cert.KernelIdeal.Hand.Wl (F := Ideal) m ρ c) (Proc.devRef .tc Cert.KernelIdeal.main_v740) = StableHlo.after (Cert.ReferenceIdeal.Hand.ops (F := Ideal)) (StableHlo.launchContents m' c) (Proc.devRef .tc Cert.ReferenceIdeal.main_v2205) := by
  have hk := StableHlo.Ascending.eq_binary Cert.KernelIdeal.Hand.KOps_asc (Cert.KernelIdeal.Hand.Wl m ρ c) (Cert.KernelIdeal.Hand.mem_KOps_st9 (Cert.KernelIdeal.Hand.mem_st_9_2 (List.getElem_mem (l := Cert.KernelIdeal.GenP.hostOps9_2 (F := Ideal)) (n := 19) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part44 (List.getElem_mem (l := Cert.ReferenceIdeal.Hand.ops_part44 (F := Ideal)) (n := 37) (by decide))) rfl rfl rfl (by decide) (by decide) (ha := ⟨by decide, rfl⟩) (hb := ⟨by decide, rfl⟩) (hy := ⟨by decide, rfl⟩)
  rw [hk, hr, ← c_main_v725__main_v2190 hag hel, ← c_main_v739__main_v2204 hag hel]

theorem c_main_cst_140__main_cst_464 : StableHlo.after Cert.KernelIdeal.Hand.KOps (Cert.KernelIdeal.Hand.Wl (F := Ideal) m ρ c) (Proc.devRef .tc Cert.KernelIdeal.main_cst_140) = StableHlo.after (Cert.ReferenceIdeal.Hand.ops (F := Ideal)) (StableHlo.launchContents m' c) (Proc.devRef .tc Cert.ReferenceIdeal.main_cst_464) := by
  have hk := StableHlo.Ascending.eq_nullary Cert.KernelIdeal.Hand.KOps_asc (Cert.KernelIdeal.Hand.Wl m ρ c) (Cert.KernelIdeal.Hand.mem_KOps_st9 (Cert.KernelIdeal.Hand.mem_st_9_2 (List.getElem_mem (l := Cert.KernelIdeal.GenP.hostOps9_2 (F := Ideal)) (n := 20) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part44 (List.getElem_mem (l := Cert.ReferenceIdeal.Hand.ops_part44 (F := Ideal)) (n := 38) (by decide))) rfl (hy := ⟨by decide, rfl⟩)
  rw [hk, hr]

theorem c_main_call28_v0__main_call103_v0 : StableHlo.after Cert.KernelIdeal.Hand.KOps (Cert.KernelIdeal.Hand.Wl (F := Ideal) m ρ c) (Proc.devRef .tc Cert.KernelIdeal.main_call28_v0) = StableHlo.after (Cert.ReferenceIdeal.Hand.ops (F := Ideal)) (StableHlo.launchContents m' c) (Proc.devRef .tc Cert.ReferenceIdeal.main_call103_v0) := by
  have hk := StableHlo.Ascending.eq_unary Cert.KernelIdeal.Hand.KOps_asc (Cert.KernelIdeal.Hand.Wl m ρ c) (Cert.KernelIdeal.Hand.mem_KOps_st9 (Cert.KernelIdeal.Hand.mem_st_9_3 (List.getElem_mem (l := Cert.KernelIdeal.GenP.hostOps9_3 (F := Ideal)) (n := 0) (by decide)))) rfl rfl (by decide) (x := Cert.KernelIdeal.main_cst_140) (y := Cert.KernelIdeal.main_call28_v0) (f := open Cert.KernelIdeal Cert.KernelIdeal.Gen in id) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part44 (List.getElem_mem (l := Cert.ReferenceIdeal.Hand.ops_part44 (F := Ideal)) (n := 39) (by decide))) rfl rfl (by decide) (x := Cert.ReferenceIdeal.main_cst_464) (y := Cert.ReferenceIdeal.main_call103_v0) (f := open Cert.ReferenceIdeal Cert.ReferenceIdeal.Gen in id) (hx := ⟨by decide, rfl⟩) (hy := ⟨by decide, rfl⟩)
  rw [hk, hr, ← c_main_cst_140__main_cst_464 hag hel]

theorem c_main_call28_v1__main_call103_v1 : StableHlo.after Cert.KernelIdeal.Hand.KOps (Cert.KernelIdeal.Hand.Wl (F := Ideal) m ρ c) (Proc.devRef .tc Cert.KernelIdeal.main_call28_v1) = StableHlo.after (Cert.ReferenceIdeal.Hand.ops (F := Ideal)) (StableHlo.launchContents m' c) (Proc.devRef .tc Cert.ReferenceIdeal.main_call103_v1) := by
  have hk := StableHlo.Ascending.eq_unary Cert.KernelIdeal.Hand.KOps_asc (Cert.KernelIdeal.Hand.Wl m ρ c) (Cert.KernelIdeal.Hand.mem_KOps_st9 (Cert.KernelIdeal.Hand.mem_st_9_3 (List.getElem_mem (l := Cert.KernelIdeal.GenP.hostOps9_3 (F := Ideal)) (n := 1) (by decide)))) rfl rfl (by decide) (x := Cert.KernelIdeal.main_call28_v0) (y := Cert.KernelIdeal.main_call28_v1) (f := open Cert.KernelIdeal Cert.KernelIdeal.Gen in (broadcastInDim S2048x2048 ![] bcast_S_S2048x2048)) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part44 (List.getElem_mem (l := Cert.ReferenceIdeal.Hand.ops_part44 (F := Ideal)) (n := 40) (by decide))) rfl rfl (by decide) (x := Cert.ReferenceIdeal.main_call103_v0) (y := Cert.ReferenceIdeal.main_call103_v1) (f := open Cert.ReferenceIdeal Cert.ReferenceIdeal.Gen in (broadcastInDim S2048x2048 ![] bcast_S_S2048x2048)) (hx := ⟨by decide, rfl⟩) (hy := ⟨by decide, rfl⟩)
  rw [hk, hr, ← c_main_call28_v0__main_call103_v0 hag hel]

theorem c_main_v741__main_v2206 : StableHlo.after Cert.KernelIdeal.Hand.KOps (Cert.KernelIdeal.Hand.Wl (F := Ideal) m ρ c) (Proc.devRef .tc Cert.KernelIdeal.main_v741) = StableHlo.after (Cert.ReferenceIdeal.Hand.ops (F := Ideal)) (StableHlo.launchContents m' c) (Proc.devRef .tc Cert.ReferenceIdeal.main_v2206) := by
  have hk := StableHlo.Ascending.eq_ternary Cert.KernelIdeal.Hand.KOps_asc (Cert.KernelIdeal.Hand.Wl m ρ c) (Cert.KernelIdeal.Hand.mem_KOps_st9 (Cert.KernelIdeal.Hand.mem_st_9_3 (List.getElem_mem (l := Cert.KernelIdeal.GenP.hostOps9_3 (F := Ideal)) (n := 2) (by decide)))) rfl rfl rfl rfl (by decide) (by decide) (by decide) (c := Cert.KernelIdeal.main_v738) (a := Cert.KernelIdeal.main_v740) (b := Cert.KernelIdeal.main_call28_v1) (y := Cert.KernelIdeal.main_v741) (f := (select : (⟨Cert.KernelIdeal.S2048x2048, .i1⟩ : BufTy).Contents (Elt Ideal) → (⟨Cert.KernelIdeal.S2048x2048, .f32⟩ : BufTy).Contents (Elt Ideal) → (⟨Cert.KernelIdeal.S2048x2048, .f32⟩ : BufTy).Contents (Elt Ideal) → (⟨Cert.KernelIdeal.S2048x2048, .f32⟩ : BufTy).Contents (Elt Ideal))) (hc := ⟨by decide, rfl⟩) (ha := ⟨by decide, rfl⟩) (hb := ⟨by decide, rfl⟩) (hy := ⟨by decide, rfl⟩)
  have hr := StableHlo.Ascending.eq_ternary (Cert.ReferenceIdeal.Hand.ops_asc (F := Ideal)) (StableHlo.launchContents m' c) (Cert.ReferenceIdeal.Hand.mem_ops_part44 (List.getElem_mem (l := Cert.ReferenceIdeal.Hand.ops_part44 (F := Ideal)) (n := 41) (by decide))) rfl rfl rfl rfl (by decide) (by decide) (by decide) (c := Cert.ReferenceIdeal.main_v2203) (a := Cert.ReferenceIdeal.main_v2205) (b := Cert.ReferenceIdeal.main_call103_v1) (y := Cert.ReferenceIdeal.main_v2206) (f := (select : (⟨Cert.ReferenceIdeal.S2048x2048, .i1⟩ : BufTy).Contents (Elt Ideal) → (⟨Cert.ReferenceIdeal.S2048x2048, .f32⟩ : BufTy).Contents (Elt Ideal) → (⟨Cert.ReferenceIdeal.S2048x2048, .f32⟩ : BufTy).Contents (Elt Ideal) → (⟨Cert.ReferenceIdeal.S2048x2048, .f32⟩ : BufTy).Contents (Elt Ideal))) (hc := ⟨by decide, rfl⟩) (ha := ⟨by decide, rfl⟩) (hb := ⟨by decide, rfl⟩) (hy := ⟨by decide, rfl⟩)
  rw [hk, hr, ← c_main_v738__main_v2203 hag hel, ← c_main_v740__main_v2205 hag hel, ← c_main_call28_v1__main_call103_v1 hag hel]

theorem c_main_cst_141__main_cst_465 : StableHlo.after Cert.KernelIdeal.Hand.KOps (Cert.KernelIdeal.Hand.Wl (F := Ideal) m ρ c) (Proc.devRef .tc Cert.KernelIdeal.main_cst_141) = StableHlo.after (Cert.ReferenceIdeal.Hand.ops (F := Ideal)) (StableHlo.launchContents m' c) (Proc.devRef .tc Cert.ReferenceIdeal.main_cst_465) := by
  have hk := StableHlo.Ascending.eq_nullary Cert.KernelIdeal.Hand.KOps_asc (Cert.KernelIdeal.Hand.Wl m ρ c) (Cert.KernelIdeal.Hand.mem_KOps_st9 (Cert.KernelIdeal.Hand.mem_st_9_4 (List.getElem_mem (l := Cert.KernelIdeal.GenP.hostOps9_4 (F := Ideal)) (n := 0) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part44 (List.getElem_mem (l := Cert.ReferenceIdeal.Hand.ops_part44 (F := Ideal)) (n := 42) (by decide))) rfl (hy := ⟨by decide, rfl⟩)
  rw [hk, hr]

theorem c_main_v742__main_v2207 : StableHlo.after Cert.KernelIdeal.Hand.KOps (Cert.KernelIdeal.Hand.Wl (F := Ideal) m ρ c) (Proc.devRef .tc Cert.KernelIdeal.main_v742) = StableHlo.after (Cert.ReferenceIdeal.Hand.ops (F := Ideal)) (StableHlo.launchContents m' c) (Proc.devRef .tc Cert.ReferenceIdeal.main_v2207) := by
  have hk := StableHlo.Ascending.eq_binary Cert.KernelIdeal.Hand.KOps_asc (Cert.KernelIdeal.Hand.Wl m ρ c) (Cert.KernelIdeal.Hand.mem_KOps_st9 (Cert.KernelIdeal.Hand.mem_st_9_4 (List.getElem_mem (l := Cert.KernelIdeal.GenP.hostOps9_4 (F := Ideal)) (n := 1) (by decide)))) rfl rfl rfl (by decide) (by decide) (a := Cert.KernelIdeal.main_v741) (b := Cert.KernelIdeal.main_cst_141) (y := Cert.KernelIdeal.main_v742) (f := open Cert.KernelIdeal Cert.KernelIdeal.Gen in (fun x v => Host.reduce (FloatOps.maximumf (F := Ideal)) x v reducesTo_S2048x2048_S2048_d1 h_S_)) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part44 (List.getElem_mem (l := Cert.ReferenceIdeal.Hand.ops_part44 (F := Ideal)) (n := 43) (by decide))) rfl rfl rfl (by decide) (by decide) (a := Cert.ReferenceIdeal.main_v2206) (b := Cert.ReferenceIdeal.main_cst_465) (y := Cert.ReferenceIdeal.main_v2207) (f := open Cert.ReferenceIdeal Cert.ReferenceIdeal.Gen in (fun x v => Host.reduce (FloatOps.maximumf (F := Ideal)) x v reducesTo_S2048x2048_S2048_d1 h_S_)) (ha := ⟨by decide, rfl⟩) (hb := ⟨by decide, rfl⟩) (hy := ⟨by decide, rfl⟩)
  rw [hk, hr, ← c_main_v741__main_v2206 hag hel, ← c_main_cst_141__main_cst_465 hag hel]

theorem c_main_cst_142__main_cst_466 : StableHlo.after Cert.KernelIdeal.Hand.KOps (Cert.KernelIdeal.Hand.Wl (F := Ideal) m ρ c) (Proc.devRef .tc Cert.KernelIdeal.main_cst_142) = StableHlo.after (Cert.ReferenceIdeal.Hand.ops (F := Ideal)) (StableHlo.launchContents m' c) (Proc.devRef .tc Cert.ReferenceIdeal.main_cst_466) := by
  have hk := StableHlo.Ascending.eq_nullary Cert.KernelIdeal.Hand.KOps_asc (Cert.KernelIdeal.Hand.Wl m ρ c) (Cert.KernelIdeal.Hand.mem_KOps_st9 (Cert.KernelIdeal.Hand.mem_st_9_4 (List.getElem_mem (l := Cert.KernelIdeal.GenP.hostOps9_4 (F := Ideal)) (n := 2) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part44 (List.getElem_mem (l := Cert.ReferenceIdeal.Hand.ops_part44 (F := Ideal)) (n := 44) (by decide))) rfl (hy := ⟨by decide, rfl⟩)
  rw [hk, hr]

theorem c_main_v743__main_v2208 : StableHlo.after Cert.KernelIdeal.Hand.KOps (Cert.KernelIdeal.Hand.Wl (F := Ideal) m ρ c) (Proc.devRef .tc Cert.KernelIdeal.main_v743) = StableHlo.after (Cert.ReferenceIdeal.Hand.ops (F := Ideal)) (StableHlo.launchContents m' c) (Proc.devRef .tc Cert.ReferenceIdeal.main_v2208) := by
  have hk := StableHlo.Ascending.eq_unary Cert.KernelIdeal.Hand.KOps_asc (Cert.KernelIdeal.Hand.Wl m ρ c) (Cert.KernelIdeal.Hand.mem_KOps_st9 (Cert.KernelIdeal.Hand.mem_st_9_4 (List.getElem_mem (l := Cert.KernelIdeal.GenP.hostOps9_4 (F := Ideal)) (n := 3) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part44 (List.getElem_mem (l := Cert.ReferenceIdeal.Hand.ops_part44 (F := Ideal)) (n := 45) (by decide))) rfl rfl (by decide) (hx := ⟨by decide, rfl⟩) (hy := ⟨by decide, rfl⟩)
  rw [hk, hr, ← c_main_cst_142__main_cst_466 hag hel]

theorem c_main_v744__main_v2209 : StableHlo.after Cert.KernelIdeal.Hand.KOps (Cert.KernelIdeal.Hand.Wl (F := Ideal) m ρ c) (Proc.devRef .tc Cert.KernelIdeal.main_v744) = StableHlo.after (Cert.ReferenceIdeal.Hand.ops (F := Ideal)) (StableHlo.launchContents m' c) (Proc.devRef .tc Cert.ReferenceIdeal.main_v2209) := by
  have hk := StableHlo.Ascending.eq_binary Cert.KernelIdeal.Hand.KOps_asc (Cert.KernelIdeal.Hand.Wl m ρ c) (Cert.KernelIdeal.Hand.mem_KOps_st9 (Cert.KernelIdeal.Hand.mem_st_9_4 (List.getElem_mem (l := Cert.KernelIdeal.GenP.hostOps9_4 (F := Ideal)) (n := 4) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part44 (List.getElem_mem (l := Cert.ReferenceIdeal.Hand.ops_part44 (F := Ideal)) (n := 46) (by decide))) rfl rfl rfl (by decide) (by decide) (ha := ⟨by decide, rfl⟩) (hb := ⟨by decide, rfl⟩) (hy := ⟨by decide, rfl⟩)
  rw [hk, hr, ← c_main_v743__main_v2208 hag hel, ← c_main_v742__main_v2207 hag hel]

theorem c_main_v745__main_v2210 : StableHlo.after Cert.KernelIdeal.Hand.KOps (Cert.KernelIdeal.Hand.Wl (F := Ideal) m ρ c) (Proc.devRef .tc Cert.KernelIdeal.main_v745) = StableHlo.after (Cert.ReferenceIdeal.Hand.ops (F := Ideal)) (StableHlo.launchContents m' c) (Proc.devRef .tc Cert.ReferenceIdeal.main_v2210) := by
  have hk := StableHlo.Ascending.eq_unary Cert.KernelIdeal.Hand.KOps_asc (Cert.KernelIdeal.Hand.Wl m ρ c) (Cert.KernelIdeal.Hand.mem_KOps_st9 (Cert.KernelIdeal.Hand.mem_st_9_4 (List.getElem_mem (l := Cert.KernelIdeal.GenP.hostOps9_4 (F := Ideal)) (n := 5) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part44 (List.getElem_mem (l := Cert.ReferenceIdeal.Hand.ops_part44 (F := Ideal)) (n := 47) (by decide))) rfl rfl (by decide) (hx := ⟨by decide, rfl⟩) (hy := ⟨by decide, rfl⟩)
  rw [hk, hr, ← c_main_v744__main_v2209 hag hel]

theorem c_main_v746__main_v2211 : StableHlo.after Cert.KernelIdeal.Hand.KOps (Cert.KernelIdeal.Hand.Wl (F := Ideal) m ρ c) (Proc.devRef .tc Cert.KernelIdeal.main_v746) = StableHlo.after (Cert.ReferenceIdeal.Hand.ops (F := Ideal)) (StableHlo.launchContents m' c) (Proc.devRef .tc Cert.ReferenceIdeal.main_v2211) := by
  have hk := StableHlo.Ascending.eq_unary Cert.KernelIdeal.Hand.KOps_asc (Cert.KernelIdeal.Hand.Wl m ρ c) (Cert.KernelIdeal.Hand.mem_KOps_st9 (Cert.KernelIdeal.Hand.mem_st_9_4 (List.getElem_mem (l := Cert.KernelIdeal.GenP.hostOps9_4 (F := Ideal)) (n := 6) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part44 (List.getElem_mem (l := Cert.ReferenceIdeal.Hand.ops_part44 (F := Ideal)) (n := 48) (by decide))) rfl rfl (by decide) (hx := ⟨by decide, rfl⟩) (hy := ⟨by decide, rfl⟩)
  rw [hk, hr, ← c_main_v745__main_v2210 hag hel]

theorem c_main_v747__main_v2212 : StableHlo.after Cert.KernelIdeal.Hand.KOps (Cert.KernelIdeal.Hand.Wl (F := Ideal) m ρ c) (Proc.devRef .tc Cert.KernelIdeal.main_v747) = StableHlo.after (Cert.ReferenceIdeal.Hand.ops (F := Ideal)) (StableHlo.launchContents m' c) (Proc.devRef .tc Cert.ReferenceIdeal.main_v2212) := by
  have hk := StableHlo.Ascending.eq_binary Cert.KernelIdeal.Hand.KOps_asc (Cert.KernelIdeal.Hand.Wl m ρ c) (Cert.KernelIdeal.Hand.mem_KOps_st9 (Cert.KernelIdeal.Hand.mem_st_9_4 (List.getElem_mem (l := Cert.KernelIdeal.GenP.hostOps9_4 (F := Ideal)) (n := 7) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part44 (List.getElem_mem (l := Cert.ReferenceIdeal.Hand.ops_part44 (F := Ideal)) (n := 49) (by decide))) rfl rfl rfl (by decide) (by decide) (ha := ⟨by decide, rfl⟩) (hb := ⟨by decide, rfl⟩) (hy := ⟨by decide, rfl⟩)
  rw [hk, hr, ← c_main_v741__main_v2206 hag hel, ← c_main_v746__main_v2211 hag hel]

theorem c_main_v748__main_v2213 : StableHlo.after Cert.KernelIdeal.Hand.KOps (Cert.KernelIdeal.Hand.Wl (F := Ideal) m ρ c) (Proc.devRef .tc Cert.KernelIdeal.main_v748) = StableHlo.after (Cert.ReferenceIdeal.Hand.ops (F := Ideal)) (StableHlo.launchContents m' c) (Proc.devRef .tc Cert.ReferenceIdeal.main_v2213) := by
  have hk := StableHlo.Ascending.eq_unary Cert.KernelIdeal.Hand.KOps_asc (Cert.KernelIdeal.Hand.Wl m ρ c) (Cert.KernelIdeal.Hand.mem_KOps_st9 (Cert.KernelIdeal.Hand.mem_st_9_4 (List.getElem_mem (l := Cert.KernelIdeal.GenP.hostOps9_4 (F := Ideal)) (n := 8) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part44 (List.getElem_mem (l := Cert.ReferenceIdeal.Hand.ops_part44 (F := Ideal)) (n := 50) (by decide))) rfl rfl (by decide) (hx := ⟨by decide, rfl⟩) (hy := ⟨by decide, rfl⟩)
  rw [hk, hr, ← c_main_v747__main_v2212 hag hel]

theorem c_main_cst_143__main_cst_467 : StableHlo.after Cert.KernelIdeal.Hand.KOps (Cert.KernelIdeal.Hand.Wl (F := Ideal) m ρ c) (Proc.devRef .tc Cert.KernelIdeal.main_cst_143) = StableHlo.after (Cert.ReferenceIdeal.Hand.ops (F := Ideal)) (StableHlo.launchContents m' c) (Proc.devRef .tc Cert.ReferenceIdeal.main_cst_467) := by
  have hk := StableHlo.Ascending.eq_nullary Cert.KernelIdeal.Hand.KOps_asc (Cert.KernelIdeal.Hand.Wl m ρ c) (Cert.KernelIdeal.Hand.mem_KOps_st9 (Cert.KernelIdeal.Hand.mem_st_9_4 (List.getElem_mem (l := Cert.KernelIdeal.GenP.hostOps9_4 (F := Ideal)) (n := 9) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part44 (List.getElem_mem (l := Cert.ReferenceIdeal.Hand.ops_part44 (F := Ideal)) (n := 51) (by decide))) rfl (hy := ⟨by decide, rfl⟩)
  rw [hk, hr]

theorem c_main_v749__main_v2214 : StableHlo.after Cert.KernelIdeal.Hand.KOps (Cert.KernelIdeal.Hand.Wl (F := Ideal) m ρ c) (Proc.devRef .tc Cert.KernelIdeal.main_v749) = StableHlo.after (Cert.ReferenceIdeal.Hand.ops (F := Ideal)) (StableHlo.launchContents m' c) (Proc.devRef .tc Cert.ReferenceIdeal.main_v2214) := by
  have hk := StableHlo.Ascending.eq_binary Cert.KernelIdeal.Hand.KOps_asc (Cert.KernelIdeal.Hand.Wl m ρ c) (Cert.KernelIdeal.Hand.mem_KOps_st9 (Cert.KernelIdeal.Hand.mem_st_9_4 (List.getElem_mem (l := Cert.KernelIdeal.GenP.hostOps9_4 (F := Ideal)) (n := 10) (by decide)))) rfl rfl rfl (by decide) (by decide) (a := Cert.KernelIdeal.main_v748) (b := Cert.KernelIdeal.main_cst_143) (y := Cert.KernelIdeal.main_v749) (f := open Cert.KernelIdeal Cert.KernelIdeal.Gen in (fun x v => Host.reduceAdd (F := Ideal) x v reducesTo_S2048x2048_S2048_d1 h_S_)) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part44 (List.getElem_mem (l := Cert.ReferenceIdeal.Hand.ops_part44 (F := Ideal)) (n := 52) (by decide))) rfl rfl rfl (by decide) (by decide) (a := Cert.ReferenceIdeal.main_v2213) (b := Cert.ReferenceIdeal.main_cst_467) (y := Cert.ReferenceIdeal.main_v2214) (f := open Cert.ReferenceIdeal Cert.ReferenceIdeal.Gen in (fun x v => Host.reduceAdd (F := Ideal) x v reducesTo_S2048x2048_S2048_d1 h_S_)) (ha := ⟨by decide, rfl⟩) (hb := ⟨by decide, rfl⟩) (hy := ⟨by decide, rfl⟩)
  rw [hk, hr, ← c_main_v748__main_v2213 hag hel, ← c_main_cst_143__main_cst_467 hag hel]

theorem c_main_v750__main_v2215 : StableHlo.after Cert.KernelIdeal.Hand.KOps (Cert.KernelIdeal.Hand.Wl (F := Ideal) m ρ c) (Proc.devRef .tc Cert.KernelIdeal.main_v750) = StableHlo.after (Cert.ReferenceIdeal.Hand.ops (F := Ideal)) (StableHlo.launchContents m' c) (Proc.devRef .tc Cert.ReferenceIdeal.main_v2215) := by
  have hk := StableHlo.Ascending.eq_unary Cert.KernelIdeal.Hand.KOps_asc (Cert.KernelIdeal.Hand.Wl m ρ c) (Cert.KernelIdeal.Hand.mem_KOps_st9 (Cert.KernelIdeal.Hand.mem_st_9_4 (List.getElem_mem (l := Cert.KernelIdeal.GenP.hostOps9_4 (F := Ideal)) (n := 11) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part44 (List.getElem_mem (l := Cert.ReferenceIdeal.Hand.ops_part44 (F := Ideal)) (n := 53) (by decide))) rfl rfl (by decide) (hx := ⟨by decide, rfl⟩) (hy := ⟨by decide, rfl⟩)
  rw [hk, hr, ← c_main_v749__main_v2214 hag hel]

theorem c_main_v751__main_v2216 : StableHlo.after Cert.KernelIdeal.Hand.KOps (Cert.KernelIdeal.Hand.Wl (F := Ideal) m ρ c) (Proc.devRef .tc Cert.KernelIdeal.main_v751) = StableHlo.after (Cert.ReferenceIdeal.Hand.ops (F := Ideal)) (StableHlo.launchContents m' c) (Proc.devRef .tc Cert.ReferenceIdeal.main_v2216) := by
  have hk := StableHlo.Ascending.eq_unary Cert.KernelIdeal.Hand.KOps_asc (Cert.KernelIdeal.Hand.Wl m ρ c) (Cert.KernelIdeal.Hand.mem_KOps_st9 (Cert.KernelIdeal.Hand.mem_st_9_4 (List.getElem_mem (l := Cert.KernelIdeal.GenP.hostOps9_4 (F := Ideal)) (n := 12) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part44 (List.getElem_mem (l := Cert.ReferenceIdeal.Hand.ops_part44 (F := Ideal)) (n := 54) (by decide))) rfl rfl (by decide) (hx := ⟨by decide, rfl⟩) (hy := ⟨by decide, rfl⟩)
  rw [hk, hr, ← c_main_v750__main_v2215 hag hel]

theorem c_main_v752__main_v2217 : StableHlo.after Cert.KernelIdeal.Hand.KOps (Cert.KernelIdeal.Hand.Wl (F := Ideal) m ρ c) (Proc.devRef .tc Cert.KernelIdeal.main_v752) = StableHlo.after (Cert.ReferenceIdeal.Hand.ops (F := Ideal)) (StableHlo.launchContents m' c) (Proc.devRef .tc Cert.ReferenceIdeal.main_v2217) := by
  have hk := StableHlo.Ascending.eq_binary Cert.KernelIdeal.Hand.KOps_asc (Cert.KernelIdeal.Hand.Wl m ρ c) (Cert.KernelIdeal.Hand.mem_KOps_st9 (Cert.KernelIdeal.Hand.mem_st_9_4 (List.getElem_mem (l := Cert.KernelIdeal.GenP.hostOps9_4 (F := Ideal)) (n := 13) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part44 (List.getElem_mem (l := Cert.ReferenceIdeal.Hand.ops_part44 (F := Ideal)) (n := 55) (by decide))) rfl rfl rfl (by decide) (by decide) (ha := ⟨by decide, rfl⟩) (hb := ⟨by decide, rfl⟩) (hy := ⟨by decide, rfl⟩)
  rw [hk, hr, ← c_main_v748__main_v2213 hag hel, ← c_main_v751__main_v2216 hag hel]

theorem c_main_v753__main_v2218 : StableHlo.after Cert.KernelIdeal.Hand.KOps (Cert.KernelIdeal.Hand.Wl (F := Ideal) m ρ c) (Proc.devRef .tc Cert.KernelIdeal.main_v753) = StableHlo.after (Cert.ReferenceIdeal.Hand.ops (F := Ideal)) (StableHlo.launchContents m' c) (Proc.devRef .tc Cert.ReferenceIdeal.main_v2218) := by
  have hk := StableHlo.Ascending.eq_unary Cert.KernelIdeal.Hand.KOps_asc (Cert.KernelIdeal.Hand.Wl m ρ c) (Cert.KernelIdeal.Hand.mem_KOps_st9 (Cert.KernelIdeal.Hand.mem_st_9_4 (List.getElem_mem (l := Cert.KernelIdeal.GenP.hostOps9_4 (F := Ideal)) (n := 14) (by decide)))) rfl rfl (by decide) (x := Cert.KernelIdeal.main_v752) (y := Cert.KernelIdeal.main_v753) (f := open Cert.KernelIdeal Cert.KernelIdeal.Gen in (transpose S2048x2048 [1, 0] · transposes_S2048x2048_S2048x2048_1_0)) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part44 (List.getElem_mem (l := Cert.ReferenceIdeal.Hand.ops_part44 (F := Ideal)) (n := 56) (by decide))) rfl rfl (by decide) (x := Cert.ReferenceIdeal.main_v2217) (y := Cert.ReferenceIdeal.main_v2218) (f := open Cert.ReferenceIdeal Cert.ReferenceIdeal.Gen in (transpose S2048x2048 [1, 0] · transposes_S2048x2048_S2048x2048_1_0)) (hx := ⟨by decide, rfl⟩) (hy := ⟨by decide, rfl⟩)
  rw [hk, hr, ← c_main_v752__main_v2217 hag hel]

theorem c_main_v754__main_v2219 : StableHlo.after Cert.KernelIdeal.Hand.KOps (Cert.KernelIdeal.Hand.Wl (F := Ideal) m ρ c) (Proc.devRef .tc Cert.KernelIdeal.main_v754) = StableHlo.after (Cert.ReferenceIdeal.Hand.ops (F := Ideal)) (StableHlo.launchContents m' c) (Proc.devRef .tc Cert.ReferenceIdeal.main_v2219) := by
  have hk := StableHlo.Ascending.eq_binary Cert.KernelIdeal.Hand.KOps_asc (Cert.KernelIdeal.Hand.Wl m ρ c) (Cert.KernelIdeal.Hand.mem_KOps_st9 (Cert.KernelIdeal.Hand.mem_st_9_4 (List.getElem_mem (l := Cert.KernelIdeal.GenP.hostOps9_4 (F := Ideal)) (n := 15) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part44 (List.getElem_mem (l := Cert.ReferenceIdeal.Hand.ops_part44 (F := Ideal)) (n := 57) (by decide))) rfl rfl rfl (by decide) (by decide) (ha := ⟨by decide, rfl⟩) (hb := ⟨by decide, rfl⟩) (hy := ⟨by decide, rfl⟩)
  rw [hk, hr, ← c_main_v753__main_v2218 hag hel, ← c_main_v714__main_v2179 hag hel]
  rfl

theorem c_main_call29_cst__main_call104_cst : StableHlo.after Cert.KernelIdeal.Hand.KOps (Cert.KernelIdeal.Hand.Wl (F := Ideal) m ρ c) (Proc.devRef .tc Cert.KernelIdeal.main_call29_cst) = StableHlo.after (Cert.ReferenceIdeal.Hand.ops (F := Ideal)) (StableHlo.launchContents m' c) (Proc.devRef .tc Cert.ReferenceIdeal.main_call104_cst) := by
  have hk := StableHlo.Ascending.eq_nullary Cert.KernelIdeal.Hand.KOps_asc (Cert.KernelIdeal.Hand.Wl m ρ c) (Cert.KernelIdeal.Hand.mem_KOps_st9 (Cert.KernelIdeal.Hand.mem_st_9_5 (List.getElem_mem (l := Cert.KernelIdeal.GenP.hostOps9_5 (F := Ideal)) (n := 0) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part44 (List.getElem_mem (l := Cert.ReferenceIdeal.Hand.ops_part44 (F := Ideal)) (n := 58) (by decide))) rfl (hy := ⟨by decide, rfl⟩)
  rw [hk, hr]

theorem c_main_call29_v0__main_call104_v0 : StableHlo.after Cert.KernelIdeal.Hand.KOps (Cert.KernelIdeal.Hand.Wl (F := Ideal) m ρ c) (Proc.devRef .tc Cert.KernelIdeal.main_call29_v0) = StableHlo.after (Cert.ReferenceIdeal.Hand.ops (F := Ideal)) (StableHlo.launchContents m' c) (Proc.devRef .tc Cert.ReferenceIdeal.main_call104_v0) := by
  have hk := StableHlo.Ascending.eq_unary Cert.KernelIdeal.Hand.KOps_asc (Cert.KernelIdeal.Hand.Wl m ρ c) (Cert.KernelIdeal.Hand.mem_KOps_st9 (Cert.KernelIdeal.Hand.mem_st_9_5 (List.getElem_mem (l := Cert.KernelIdeal.GenP.hostOps9_5 (F := Ideal)) (n := 1) (by decide)))) rfl rfl (by decide) (x := Cert.KernelIdeal.main_call29_cst) (y := Cert.KernelIdeal.main_call29_v0) (f := open Cert.KernelIdeal Cert.KernelIdeal.Gen in (broadcastInDim S2048x8 ![] bcast_S_S2048x8)) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part44 (List.getElem_mem (l := Cert.ReferenceIdeal.Hand.ops_part44 (F := Ideal)) (n := 59) (by decide))) rfl rfl (by decide) (x := Cert.ReferenceIdeal.main_call104_cst) (y := Cert.ReferenceIdeal.main_call104_v0) (f := open Cert.ReferenceIdeal Cert.ReferenceIdeal.Gen in (broadcastInDim S2048x8 ![] bcast_S_S2048x8)) (hx := ⟨by decide, rfl⟩) (hy := ⟨by decide, rfl⟩)
  rw [hk, hr, ← c_main_call29_cst__main_call104_cst hag hel]

theorem c_main_call29_v1__main_call104_v1 : StableHlo.after Cert.KernelIdeal.Hand.KOps (Cert.KernelIdeal.Hand.Wl (F := Ideal) m ρ c) (Proc.devRef .tc Cert.KernelIdeal.main_call29_v1) = StableHlo.after (Cert.ReferenceIdeal.Hand.ops (F := Ideal)) (StableHlo.launchContents m' c) (Proc.devRef .tc Cert.ReferenceIdeal.main_call104_v1) := by
  have hk := StableHlo.Ascending.eq_binary Cert.KernelIdeal.Hand.KOps_asc (Cert.KernelIdeal.Hand.Wl m ρ c) (Cert.KernelIdeal.Hand.mem_KOps_st9 (Cert.KernelIdeal.Hand.mem_st_9_5 (List.getElem_mem (l := Cert.KernelIdeal.GenP.hostOps9_5 (F := Ideal)) (n := 2) (by decide)))) rfl rfl rfl (by decide) (by decide) (a := Cert.KernelIdeal.main_v754) (b := Cert.KernelIdeal.main_call29_v0) (y := Cert.KernelIdeal.main_call29_v1) (f := open Cert.KernelIdeal Cert.KernelIdeal.Gen in (cmpf (F := Ideal) .ogt)) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part44 (List.getElem_mem (l := Cert.ReferenceIdeal.Hand.ops_part44 (F := Ideal)) (n := 60) (by decide))) rfl rfl rfl (by decide) (by decide) (a := Cert.ReferenceIdeal.main_v2219) (b := Cert.ReferenceIdeal.main_call104_v0) (y := Cert.ReferenceIdeal.main_call104_v1) (f := open Cert.ReferenceIdeal Cert.ReferenceIdeal.Gen in (cmpf (F := Ideal) .ogt)) (ha := ⟨by decide, rfl⟩) (hb := ⟨by decide, rfl⟩) (hy := ⟨by decide, rfl⟩)
  rw [hk, hr, ← c_main_v754__main_v2219 hag hel, ← c_main_call29_v0__main_call104_v0 hag hel]

theorem c_main_call29_cst_0__main_call104_cst_0 : StableHlo.after Cert.KernelIdeal.Hand.KOps (Cert.KernelIdeal.Hand.Wl (F := Ideal) m ρ c) (Proc.devRef .tc Cert.KernelIdeal.main_call29_cst_0) = StableHlo.after (Cert.ReferenceIdeal.Hand.ops (F := Ideal)) (StableHlo.launchContents m' c) (Proc.devRef .tc Cert.ReferenceIdeal.main_call104_cst_0) := by
  have hk := StableHlo.Ascending.eq_nullary Cert.KernelIdeal.Hand.KOps_asc (Cert.KernelIdeal.Hand.Wl m ρ c) (Cert.KernelIdeal.Hand.mem_KOps_st9 (Cert.KernelIdeal.Hand.mem_st_9_5 (List.getElem_mem (l := Cert.KernelIdeal.GenP.hostOps9_5 (F := Ideal)) (n := 3) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part44 (List.getElem_mem (l := Cert.ReferenceIdeal.Hand.ops_part44 (F := Ideal)) (n := 61) (by decide))) rfl (hy := ⟨by decide, rfl⟩)
  rw [hk, hr]

theorem c_main_call29_v2__main_call104_v2 : StableHlo.after Cert.KernelIdeal.Hand.KOps (Cert.KernelIdeal.Hand.Wl (F := Ideal) m ρ c) (Proc.devRef .tc Cert.KernelIdeal.main_call29_v2) = StableHlo.after (Cert.ReferenceIdeal.Hand.ops (F := Ideal)) (StableHlo.launchContents m' c) (Proc.devRef .tc Cert.ReferenceIdeal.main_call104_v2) := by
  have hk := StableHlo.Ascending.eq_unary Cert.KernelIdeal.Hand.KOps_asc (Cert.KernelIdeal.Hand.Wl m ρ c) (Cert.KernelIdeal.Hand.mem_KOps_st9 (Cert.KernelIdeal.Hand.mem_st_9_5 (List.getElem_mem (l := Cert.KernelIdeal.GenP.hostOps9_5 (F := Ideal)) (n := 4) (by decide)))) rfl rfl (by decide) (x := Cert.KernelIdeal.main_call29_cst_0) (y := Cert.KernelIdeal.main_call29_v2) (f := open Cert.KernelIdeal Cert.KernelIdeal.Gen in (broadcastInDim S2048x8 ![] bcast_S_S2048x8)) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part44 (List.getElem_mem (l := Cert.ReferenceIdeal.Hand.ops_part44 (F := Ideal)) (n := 62) (by decide))) rfl rfl (by decide) (x := Cert.ReferenceIdeal.main_call104_cst_0) (y := Cert.ReferenceIdeal.main_call104_v2) (f := open Cert.ReferenceIdeal Cert.ReferenceIdeal.Gen in (broadcastInDim S2048x8 ![] bcast_S_S2048x8)) (hx := ⟨by decide, rfl⟩) (hy := ⟨by decide, rfl⟩)
  rw [hk, hr, ← c_main_call29_cst_0__main_call104_cst_0 hag hel]

theorem c_main_call29_v3__main_call104_v3 : StableHlo.after Cert.KernelIdeal.Hand.KOps (Cert.KernelIdeal.Hand.Wl (F := Ideal) m ρ c) (Proc.devRef .tc Cert.KernelIdeal.main_call29_v3) = StableHlo.after (Cert.ReferenceIdeal.Hand.ops (F := Ideal)) (StableHlo.launchContents m' c) (Proc.devRef .tc Cert.ReferenceIdeal.main_call104_v3) := by
  have hk := StableHlo.Ascending.eq_binary Cert.KernelIdeal.Hand.KOps_asc (Cert.KernelIdeal.Hand.Wl m ρ c) (Cert.KernelIdeal.Hand.mem_KOps_st9 (Cert.KernelIdeal.Hand.mem_st_9_5 (List.getElem_mem (l := Cert.KernelIdeal.GenP.hostOps9_5 (F := Ideal)) (n := 5) (by decide)))) rfl rfl rfl (by decide) (by decide) (a := Cert.KernelIdeal.main_v754) (b := Cert.KernelIdeal.main_call29_v2) (y := Cert.KernelIdeal.main_call29_v3) (f := open Cert.KernelIdeal Cert.KernelIdeal.Gen in (cmpf (F := Ideal) .ogt)) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part44 (List.getElem_mem (l := Cert.ReferenceIdeal.Hand.ops_part44 (F := Ideal)) (n := 63) (by decide))) rfl rfl rfl (by decide) (by decide) (a := Cert.ReferenceIdeal.main_v2219) (b := Cert.ReferenceIdeal.main_call104_v2) (y := Cert.ReferenceIdeal.main_call104_v3) (f := open Cert.ReferenceIdeal Cert.ReferenceIdeal.Gen in (cmpf (F := Ideal) .ogt)) (ha := ⟨by decide, rfl⟩) (hb := ⟨by decide, rfl⟩) (hy := ⟨by decide, rfl⟩)
  rw [hk, hr, ← c_main_v754__main_v2219 hag hel, ← c_main_call29_v2__main_call104_v2 hag hel]

theorem c_main_call29_cst_1__main_call104_cst_1 : StableHlo.after Cert.KernelIdeal.Hand.KOps (Cert.KernelIdeal.Hand.Wl (F := Ideal) m ρ c) (Proc.devRef .tc Cert.KernelIdeal.main_call29_cst_1) = StableHlo.after (Cert.ReferenceIdeal.Hand.ops (F := Ideal)) (StableHlo.launchContents m' c) (Proc.devRef .tc Cert.ReferenceIdeal.main_call104_cst_1) := by
  have hk := StableHlo.Ascending.eq_nullary Cert.KernelIdeal.Hand.KOps_asc (Cert.KernelIdeal.Hand.Wl m ρ c) (Cert.KernelIdeal.Hand.mem_KOps_st9 (Cert.KernelIdeal.Hand.mem_st_9_5 (List.getElem_mem (l := Cert.KernelIdeal.GenP.hostOps9_5 (F := Ideal)) (n := 6) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part44 (List.getElem_mem (l := Cert.ReferenceIdeal.Hand.ops_part44 (F := Ideal)) (n := 64) (by decide))) rfl (hy := ⟨by decide, rfl⟩)
  rw [hk, hr]

theorem c_main_call29_call0_v0__main_call104_call0_v0 : StableHlo.after Cert.KernelIdeal.Hand.KOps (Cert.KernelIdeal.Hand.Wl (F := Ideal) m ρ c) (Proc.devRef .tc Cert.KernelIdeal.main_call29_call0_v0) = StableHlo.after (Cert.ReferenceIdeal.Hand.ops (F := Ideal)) (StableHlo.launchContents m' c) (Proc.devRef .tc Cert.ReferenceIdeal.main_call104_call0_v0) := by
  have hk := StableHlo.Ascending.eq_unary Cert.KernelIdeal.Hand.KOps_asc (Cert.KernelIdeal.Hand.Wl m ρ c) (Cert.KernelIdeal.Hand.mem_KOps_st9 (Cert.KernelIdeal.Hand.mem_st_9_5 (List.getElem_mem (l := Cert.KernelIdeal.GenP.hostOps9_5 (F := Ideal)) (n := 7) (by decide)))) rfl rfl (by decide) (x := Cert.KernelIdeal.main_call29_cst_1) (y := Cert.KernelIdeal.main_call29_call0_v0) (f := open Cert.KernelIdeal Cert.KernelIdeal.Gen in id) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part44 (List.getElem_mem (l := Cert.ReferenceIdeal.Hand.ops_part44 (F := Ideal)) (n := 65) (by decide))) rfl rfl (by decide) (x := Cert.ReferenceIdeal.main_call104_cst_1) (y := Cert.ReferenceIdeal.main_call104_call0_v0) (f := open Cert.ReferenceIdeal Cert.ReferenceIdeal.Gen in id) (hx := ⟨by decide, rfl⟩) (hy := ⟨by decide, rfl⟩)
  rw [hk, hr, ← c_main_call29_cst_1__main_call104_cst_1 hag hel]

theorem c_main_call29_call0_v1__main_call104_call0_v1 : StableHlo.after Cert.KernelIdeal.Hand.KOps (Cert.KernelIdeal.Hand.Wl (F := Ideal) m ρ c) (Proc.devRef .tc Cert.KernelIdeal.main_call29_call0_v1) = StableHlo.after (Cert.ReferenceIdeal.Hand.ops (F := Ideal)) (StableHlo.launchContents m' c) (Proc.devRef .tc Cert.ReferenceIdeal.main_call104_call0_v1) := by
  have hk := StableHlo.Ascending.eq_unary Cert.KernelIdeal.Hand.KOps_asc (Cert.KernelIdeal.Hand.Wl m ρ c) (Cert.KernelIdeal.Hand.mem_KOps_st9 (Cert.KernelIdeal.Hand.mem_st_9_5 (List.getElem_mem (l := Cert.KernelIdeal.GenP.hostOps9_5 (F := Ideal)) (n := 8) (by decide)))) rfl rfl (by decide) (x := Cert.KernelIdeal.main_call29_call0_v0) (y := Cert.KernelIdeal.main_call29_call0_v1) (f := open Cert.KernelIdeal Cert.KernelIdeal.Gen in (broadcastInDim S2048x8 ![] bcast_S_S2048x8)) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part44 (List.getElem_mem (l := Cert.ReferenceIdeal.Hand.ops_part44 (F := Ideal)) (n := 66) (by decide))) rfl rfl (by decide) (x := Cert.ReferenceIdeal.main_call104_call0_v0) (y := Cert.ReferenceIdeal.main_call104_call0_v1) (f := open Cert.ReferenceIdeal Cert.ReferenceIdeal.Gen in (broadcastInDim S2048x8 ![] bcast_S_S2048x8)) (hx := ⟨by decide, rfl⟩) (hy := ⟨by decide, rfl⟩)
  rw [hk, hr, ← c_main_call29_call0_v0__main_call104_call0_v0 hag hel]

theorem c_main_call29_v4__main_call104_v4 : StableHlo.after Cert.KernelIdeal.Hand.KOps (Cert.KernelIdeal.Hand.Wl (F := Ideal) m ρ c) (Proc.devRef .tc Cert.KernelIdeal.main_call29_v4) = StableHlo.after (Cert.ReferenceIdeal.Hand.ops (F := Ideal)) (StableHlo.launchContents m' c) (Proc.devRef .tc Cert.ReferenceIdeal.main_call104_v4) := by
  have hk := StableHlo.Ascending.eq_ternary Cert.KernelIdeal.Hand.KOps_asc (Cert.KernelIdeal.Hand.Wl m ρ c) (Cert.KernelIdeal.Hand.mem_KOps_st9 (Cert.KernelIdeal.Hand.mem_st_9_5 (List.getElem_mem (l := Cert.KernelIdeal.GenP.hostOps9_5 (F := Ideal)) (n := 9) (by decide)))) rfl rfl rfl rfl (by decide) (by decide) (by decide) (c := Cert.KernelIdeal.main_call29_v3) (a := Cert.KernelIdeal.main_call29_call0_v1) (b := Cert.KernelIdeal.main_v754) (y := Cert.KernelIdeal.main_call29_v4) (f := (select : (⟨Cert.KernelIdeal.S2048x8, .i1⟩ : BufTy).Contents (Elt Ideal) → (⟨Cert.KernelIdeal.S2048x8, .f32⟩ : BufTy).Contents (Elt Ideal) → (⟨Cert.KernelIdeal.S2048x8, .f32⟩ : BufTy).Contents (Elt Ideal) → (⟨Cert.KernelIdeal.S2048x8, .f32⟩ : BufTy).Contents (Elt Ideal))) (hc := ⟨by decide, rfl⟩) (ha := ⟨by decide, rfl⟩) (hb := ⟨by decide, rfl⟩) (hy := ⟨by decide, rfl⟩)
  have hr := StableHlo.Ascending.eq_ternary (Cert.ReferenceIdeal.Hand.ops_asc (F := Ideal)) (StableHlo.launchContents m' c) (Cert.ReferenceIdeal.Hand.mem_ops_part44 (List.getElem_mem (l := Cert.ReferenceIdeal.Hand.ops_part44 (F := Ideal)) (n := 67) (by decide))) rfl rfl rfl rfl (by decide) (by decide) (by decide) (c := Cert.ReferenceIdeal.main_call104_v3) (a := Cert.ReferenceIdeal.main_call104_call0_v1) (b := Cert.ReferenceIdeal.main_v2219) (y := Cert.ReferenceIdeal.main_call104_v4) (f := (select : (⟨Cert.ReferenceIdeal.S2048x8, .i1⟩ : BufTy).Contents (Elt Ideal) → (⟨Cert.ReferenceIdeal.S2048x8, .f32⟩ : BufTy).Contents (Elt Ideal) → (⟨Cert.ReferenceIdeal.S2048x8, .f32⟩ : BufTy).Contents (Elt Ideal) → (⟨Cert.ReferenceIdeal.S2048x8, .f32⟩ : BufTy).Contents (Elt Ideal))) (hc := ⟨by decide, rfl⟩) (ha := ⟨by decide, rfl⟩) (hb := ⟨by decide, rfl⟩) (hy := ⟨by decide, rfl⟩)
  rw [hk, hr, ← c_main_call29_v3__main_call104_v3 hag hel, ← c_main_call29_call0_v1__main_call104_call0_v1 hag hel, ← c_main_v754__main_v2219 hag hel]

theorem c_main_call29_v5__main_call104_v5 : StableHlo.after Cert.KernelIdeal.Hand.KOps (Cert.KernelIdeal.Hand.Wl (F := Ideal) m ρ c) (Proc.devRef .tc Cert.KernelIdeal.main_call29_v5) = StableHlo.after (Cert.ReferenceIdeal.Hand.ops (F := Ideal)) (StableHlo.launchContents m' c) (Proc.devRef .tc Cert.ReferenceIdeal.main_call104_v5) := by
  have hk := StableHlo.Ascending.eq_unary Cert.KernelIdeal.Hand.KOps_asc (Cert.KernelIdeal.Hand.Wl m ρ c) (Cert.KernelIdeal.Hand.mem_KOps_st9 (Cert.KernelIdeal.Hand.mem_st_9_5 (List.getElem_mem (l := Cert.KernelIdeal.GenP.hostOps9_5 (F := Ideal)) (n := 10) (by decide)))) rfl rfl (by decide) (x := Cert.KernelIdeal.main_call29_v4) (y := Cert.KernelIdeal.main_call29_v5) (f := open Cert.KernelIdeal Cert.KernelIdeal.Gen in Host.expm1 (F := Ideal)) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part44 (List.getElem_mem (l := Cert.ReferenceIdeal.Hand.ops_part44 (F := Ideal)) (n := 68) (by decide))) rfl rfl (by decide) (x := Cert.ReferenceIdeal.main_call104_v4) (y := Cert.ReferenceIdeal.main_call104_v5) (f := open Cert.ReferenceIdeal Cert.ReferenceIdeal.Gen in Host.expm1 (F := Ideal)) (hx := ⟨by decide, rfl⟩) (hy := ⟨by decide, rfl⟩)
  rw [hk, hr, ← c_main_call29_v4__main_call104_v4 hag hel]

theorem c_main_call29_cst_2__main_call104_cst_2 : StableHlo.after Cert.KernelIdeal.Hand.KOps (Cert.KernelIdeal.Hand.Wl (F := Ideal) m ρ c) (Proc.devRef .tc Cert.KernelIdeal.main_call29_cst_2) = StableHlo.after (Cert.ReferenceIdeal.Hand.ops (F := Ideal)) (StableHlo.launchContents m' c) (Proc.devRef .tc Cert.ReferenceIdeal.main_call104_cst_2) := by
  have hk := StableHlo.Ascending.eq_nullary Cert.KernelIdeal.Hand.KOps_asc (Cert.KernelIdeal.Hand.Wl m ρ c) (Cert.KernelIdeal.Hand.mem_KOps_st9 (Cert.KernelIdeal.Hand.mem_st_9_5 (List.getElem_mem (l := Cert.KernelIdeal.GenP.hostOps9_5 (F := Ideal)) (n := 11) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part44 (List.getElem_mem (l := Cert.ReferenceIdeal.Hand.ops_part44 (F := Ideal)) (n := 69) (by decide))) rfl (hy := ⟨by decide, rfl⟩)
  rw [hk, hr]

end Cert.Value

end
-- ==== Proof.Val.C021.lean ====
/- Steps C021 of the value claim's chain: for each listed pair, the kernel program's buffer and its reference twin hold equal contents at the two programs' final
   valuations — the two operations are the same function (read off the two operation lists) of operands already paired. A table; written by: bun scratch/corr.js 60 -/
import proofs.«146970_j35948876268088_1_alg».proof.Proof.Val.Seed
import proofs.«146970_j35948876268088_1_alg».proof.Proof.KI.Dots
import Mathlib.Tactic.FinCases
import proofs.«146970_j35948876268088_1_alg».proof.Proof.Val.C000
import proofs.«146970_j35948876268088_1_alg».proof.Proof.Val.C016
import proofs.«146970_j35948876268088_1_alg».proof.Proof.Val.C019
import proofs.«146970_j35948876268088_1_alg».proof.Proof.Val.C020

set_option maxRecDepth 16384

noncomputable section

namespace Cert.Value

open Idealize.ShloMosaic Idealize.ShloMosaic.TcCoe Idealize.SL.Sem

variable {m : (ℓ : Loc Cert.KernelIdeal.nD Cert.KernelIdeal.τ Cert.KernelIdeal.sig) → Buf (Elt Ideal) ℓ} {ρ : Dev Cert.KernelIdeal.nD → PrngReg}
  {m' : (ℓ : Loc Cert.ReferenceIdeal.nD Cert.ReferenceIdeal.τ Cert.ReferenceIdeal.sig) → Buf (Elt Ideal) ℓ} {c : Dev Cert.KernelIdeal.nD} (hag : Agree m m') (hel : Els m' c)
include hag hel

theorem c_main_call29_v6__main_call104_v6 : StableHlo.after Cert.KernelIdeal.Hand.KOps (Cert.KernelIdeal.Hand.Wl (F := Ideal) m ρ c) (Proc.devRef .tc Cert.KernelIdeal.main_call29_v6) = StableHlo.after (Cert.ReferenceIdeal.Hand.ops (F := Ideal)) (StableHlo.launchContents m' c) (Proc.devRef .tc Cert.ReferenceIdeal.main_call104_v6) := by
  have hk := StableHlo.Ascending.eq_unary Cert.KernelIdeal.Hand.KOps_asc (Cert.KernelIdeal.Hand.Wl m ρ c) (Cert.KernelIdeal.Hand.mem_KOps_st9 (Cert.KernelIdeal.Hand.mem_st_9_5 (List.getElem_mem (l := Cert.KernelIdeal.GenP.hostOps9_5 (F := Ideal)) (n := 12) (by decide)))) rfl rfl (by decide) (x := Cert.KernelIdeal.main_call29_cst_2) (y := Cert.KernelIdeal.main_call29_v6) (f := open Cert.KernelIdeal Cert.KernelIdeal.Gen in (broadcastInDim S2048x8 ![] bcast_S_S2048x8)) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part44 (List.getElem_mem (l := Cert.ReferenceIdeal.Hand.ops_part44 (F := Ideal)) (n := 70) (by decide))) rfl rfl (by decide) (x := Cert.ReferenceIdeal.main_call104_cst_2) (y := Cert.ReferenceIdeal.main_call104_v6) (f := open Cert.ReferenceIdeal Cert.ReferenceIdeal.Gen in (broadcastInDim S2048x8 ![] bcast_S_S2048x8)) (hx := ⟨by decide, rfl⟩) (hy := ⟨by decide, rfl⟩)
  rw [hk, hr, ← c_main_call29_cst_2__main_call104_cst_2 hag hel]

theorem c_main_call29_v7__main_call104_v7 : StableHlo.after Cert.KernelIdeal.Hand.KOps (Cert.KernelIdeal.Hand.Wl (F := Ideal) m ρ c) (Proc.devRef .tc Cert.KernelIdeal.main_call29_v7) = StableHlo.after (Cert.ReferenceIdeal.Hand.ops (F := Ideal)) (StableHlo.launchContents m' c) (Proc.devRef .tc Cert.ReferenceIdeal.main_call104_v7) := by
  have hk := StableHlo.Ascending.eq_binary Cert.KernelIdeal.Hand.KOps_asc (Cert.KernelIdeal.Hand.Wl m ρ c) (Cert.KernelIdeal.Hand.mem_KOps_st9 (Cert.KernelIdeal.Hand.mem_st_9_5 (List.getElem_mem (l := Cert.KernelIdeal.GenP.hostOps9_5 (F := Ideal)) (n := 13) (by decide)))) rfl rfl rfl (by decide) (by decide) (a := Cert.KernelIdeal.main_call29_v6) (b := Cert.KernelIdeal.main_call29_v5) (y := Cert.KernelIdeal.main_call29_v7) (f := open Cert.KernelIdeal Cert.KernelIdeal.Gen in mulf (F := Ideal)) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part44 (List.getElem_mem (l := Cert.ReferenceIdeal.Hand.ops_part44 (F := Ideal)) (n := 71) (by decide))) rfl rfl rfl (by decide) (by decide) (a := Cert.ReferenceIdeal.main_call104_v6) (b := Cert.ReferenceIdeal.main_call104_v5) (y := Cert.ReferenceIdeal.main_call104_v7) (f := open Cert.ReferenceIdeal Cert.ReferenceIdeal.Gen in mulf (F := Ideal)) (ha := ⟨by decide, rfl⟩) (hb := ⟨by decide, rfl⟩) (hy := ⟨by decide, rfl⟩)
  rw [hk, hr, ← c_main_call29_v6__main_call104_v6 hag hel, ← c_main_call29_v5__main_call104_v5 hag hel]

theorem c_main_v755__main_v2220 : StableHlo.after Cert.KernelIdeal.Hand.KOps (Cert.KernelIdeal.Hand.Wl (F := Ideal) m ρ c) (Proc.devRef .tc Cert.KernelIdeal.main_v755) = StableHlo.after (Cert.ReferenceIdeal.Hand.ops (F := Ideal)) (StableHlo.launchContents m' c) (Proc.devRef .tc Cert.ReferenceIdeal.main_v2220) := by
  have hk := StableHlo.Ascending.eq_ternary Cert.KernelIdeal.Hand.KOps_asc (Cert.KernelIdeal.Hand.Wl m ρ c) (Cert.KernelIdeal.Hand.mem_KOps_st9 (Cert.KernelIdeal.Hand.mem_st_9_5 (List.getElem_mem (l := Cert.KernelIdeal.GenP.hostOps9_5 (F := Ideal)) (n := 14) (by decide)))) rfl rfl rfl rfl (by decide) (by decide) (by decide) (c := Cert.KernelIdeal.main_call29_v1) (a := Cert.KernelIdeal.main_v754) (b := Cert.KernelIdeal.main_call29_v7) (y := Cert.KernelIdeal.main_v755) (f := (select : (⟨Cert.KernelIdeal.S2048x8, .i1⟩ : BufTy).Contents (Elt Ideal) → (⟨Cert.KernelIdeal.S2048x8, .f32⟩ : BufTy).Contents (Elt Ideal) → (⟨Cert.KernelIdeal.S2048x8, .f32⟩ : BufTy).Contents (Elt Ideal) → (⟨Cert.KernelIdeal.S2048x8, .f32⟩ : BufTy).Contents (Elt Ideal))) (hc := ⟨by decide, rfl⟩) (ha := ⟨by decide, rfl⟩) (hb := ⟨by decide, rfl⟩) (hy := ⟨by decide, rfl⟩)
  have hr := StableHlo.Ascending.eq_ternary (Cert.ReferenceIdeal.Hand.ops_asc (F := Ideal)) (StableHlo.launchContents m' c) (Cert.ReferenceIdeal.Hand.mem_ops_part44 (List.getElem_mem (l := Cert.ReferenceIdeal.Hand.ops_part44 (F := Ideal)) (n := 72) (by decide))) rfl rfl rfl rfl (by decide) (by decide) (by decide) (c := Cert.ReferenceIdeal.main_call104_v1) (a := Cert.ReferenceIdeal.main_v2219) (b := Cert.ReferenceIdeal.main_call104_v7) (y := Cert.ReferenceIdeal.main_v2220) (f := (select : (⟨Cert.ReferenceIdeal.S2048x8, .i1⟩ : BufTy).Contents (Elt Ideal) → (⟨Cert.ReferenceIdeal.S2048x8, .f32⟩ : BufTy).Contents (Elt Ideal) → (⟨Cert.ReferenceIdeal.S2048x8, .f32⟩ : BufTy).Contents (Elt Ideal) → (⟨Cert.ReferenceIdeal.S2048x8, .f32⟩ : BufTy).Contents (Elt Ideal))) (hc := ⟨by decide, rfl⟩) (ha := ⟨by decide, rfl⟩) (hb := ⟨by decide, rfl⟩) (hy := ⟨by decide, rfl⟩)
  rw [hk, hr, ← c_main_call29_v1__main_call104_v1 hag hel, ← c_main_v754__main_v2219 hag hel, ← c_main_call29_v7__main_call104_v7 hag hel]

theorem c_main_v756__main_v2222 : StableHlo.after Cert.KernelIdeal.Hand.KOps (Cert.KernelIdeal.Hand.Wl (F := Ideal) m ρ c) (Proc.devRef .tc Cert.KernelIdeal.main_v756) = StableHlo.after (Cert.ReferenceIdeal.Hand.ops (F := Ideal)) (StableHlo.launchContents m' c) (Proc.devRef .tc Cert.ReferenceIdeal.main_v2222) := by
  have hk := StableHlo.Ascending.eq_binary Cert.KernelIdeal.Hand.KOps_asc (Cert.KernelIdeal.Hand.Wl m ρ c) (Cert.KernelIdeal.Hand.mem_KOps_st9 (Cert.KernelIdeal.Hand.mem_st_9_6 (List.getElem_mem (l := Cert.KernelIdeal.GenP.hostOps9_6 (F := Ideal)) (n := 0) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part44 (List.getElem_mem (l := Cert.ReferenceIdeal.Hand.ops_part44 (F := Ideal)) (n := 74) (by decide))) rfl rfl rfl (by decide) (by decide) (ha := ⟨by decide, rfl⟩) (hb := ⟨by decide, rfl⟩) (hy := ⟨by decide, rfl⟩)
  rw [hk, hr, ← c_main_v38__main_v137 hag hel, ← c_main_v713__main_v2142 hag hel]
  rfl

theorem c_main_v757__main_v2223 : StableHlo.after Cert.KernelIdeal.Hand.KOps (Cert.KernelIdeal.Hand.Wl (F := Ideal) m ρ c) (Proc.devRef .tc Cert.KernelIdeal.main_v757) = StableHlo.after (Cert.ReferenceIdeal.Hand.ops (F := Ideal)) (StableHlo.launchContents m' c) (Proc.devRef .tc Cert.ReferenceIdeal.main_v2223) := by
  have hk := StableHlo.Ascending.eq_binary Cert.KernelIdeal.Hand.KOps_asc (Cert.KernelIdeal.Hand.Wl m ρ c) (Cert.KernelIdeal.Hand.mem_KOps_st9 (Cert.KernelIdeal.Hand.mem_st_9_6 (List.getElem_mem (l := Cert.KernelIdeal.GenP.hostOps9_6 (F := Ideal)) (n := 1) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part44 (List.getElem_mem (l := Cert.ReferenceIdeal.Hand.ops_part44 (F := Ideal)) (n := 75) (by decide))) rfl rfl rfl (by decide) (by decide) (ha := ⟨by decide, rfl⟩) (hb := ⟨by decide, rfl⟩) (hy := ⟨by decide, rfl⟩)
  rw [hk, hr, ← c_main_v555__main_v1773 hag hel, ← c_main_v713__main_v2142 hag hel]
  rfl

theorem c_main_v758__main_v2224 : StableHlo.after Cert.KernelIdeal.Hand.KOps (Cert.KernelIdeal.Hand.Wl (F := Ideal) m ρ c) (Proc.devRef .tc Cert.KernelIdeal.main_v758) = StableHlo.after (Cert.ReferenceIdeal.Hand.ops (F := Ideal)) (StableHlo.launchContents m' c) (Proc.devRef .tc Cert.ReferenceIdeal.main_v2224) := by
  have hk := StableHlo.Ascending.eq_unary Cert.KernelIdeal.Hand.KOps_asc (Cert.KernelIdeal.Hand.Wl m ρ c) (Cert.KernelIdeal.Hand.mem_KOps_st9 (Cert.KernelIdeal.Hand.mem_st_9_6 (List.getElem_mem (l := Cert.KernelIdeal.GenP.hostOps9_6 (F := Ideal)) (n := 2) (by decide)))) rfl rfl (by decide) (x := Cert.KernelIdeal.main_v712) (y := Cert.KernelIdeal.main_v758) (f := open Cert.KernelIdeal Cert.KernelIdeal.Gen in (extractStridedSlice S8x1 ![0, 0] · slices_S16x1_S8x1_0_0)) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part44 (List.getElem_mem (l := Cert.ReferenceIdeal.Hand.ops_part44 (F := Ideal)) (n := 76) (by decide))) rfl rfl (by decide) (x := Cert.ReferenceIdeal.main_v2141) (y := Cert.ReferenceIdeal.main_v2224) (f := open Cert.ReferenceIdeal Cert.ReferenceIdeal.Gen in (extractStridedSlice S8x1 ![0, 0] · slices_S16x1_S8x1_0_0)) (hx := ⟨by decide, rfl⟩) (hy := ⟨by decide, rfl⟩)
  rw [hk, hr, ← c_main_v712__main_v2141 hag hel]

theorem c_main_v759__main_v2225 : StableHlo.after Cert.KernelIdeal.Hand.KOps (Cert.KernelIdeal.Hand.Wl (F := Ideal) m ρ c) (Proc.devRef .tc Cert.KernelIdeal.main_v759) = StableHlo.after (Cert.ReferenceIdeal.Hand.ops (F := Ideal)) (StableHlo.launchContents m' c) (Proc.devRef .tc Cert.ReferenceIdeal.main_v2225) := by
  have hk := StableHlo.Ascending.eq_binary Cert.KernelIdeal.Hand.KOps_asc (Cert.KernelIdeal.Hand.Wl m ρ c) (Cert.KernelIdeal.Hand.mem_KOps_st9 (Cert.KernelIdeal.Hand.mem_st_9_6 (List.getElem_mem (l := Cert.KernelIdeal.GenP.hostOps9_6 (F := Ideal)) (n := 3) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part44 (List.getElem_mem (l := Cert.ReferenceIdeal.Hand.ops_part44 (F := Ideal)) (n := 77) (by decide))) rfl rfl rfl (by decide) (by decide) (ha := ⟨by decide, rfl⟩) (hb := ⟨by decide, rfl⟩) (hy := ⟨by decide, rfl⟩)
  rw [hk, hr, ← c_main_v756__main_v2222 hag hel, ← c_main_v758__main_v2224 hag hel]
  rfl

theorem c_main_v760__main_v2226 : StableHlo.after Cert.KernelIdeal.Hand.KOps (Cert.KernelIdeal.Hand.Wl (F := Ideal) m ρ c) (Proc.devRef .tc Cert.KernelIdeal.main_v760) = StableHlo.after (Cert.ReferenceIdeal.Hand.ops (F := Ideal)) (StableHlo.launchContents m' c) (Proc.devRef .tc Cert.ReferenceIdeal.main_v2226) := by
  have hk := StableHlo.Ascending.eq_unary Cert.KernelIdeal.Hand.KOps_asc (Cert.KernelIdeal.Hand.Wl m ρ c) (Cert.KernelIdeal.Hand.mem_KOps_st9 (Cert.KernelIdeal.Hand.mem_st_9_6 (List.getElem_mem (l := Cert.KernelIdeal.GenP.hostOps9_6 (F := Ideal)) (n := 4) (by decide)))) rfl rfl (by decide) (x := Cert.KernelIdeal.main_v712) (y := Cert.KernelIdeal.main_v760) (f := open Cert.KernelIdeal Cert.KernelIdeal.Gen in (extractStridedSlice S8x1 ![8, 0] · slices_S16x1_S8x1_8_0)) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part44 (List.getElem_mem (l := Cert.ReferenceIdeal.Hand.ops_part44 (F := Ideal)) (n := 78) (by decide))) rfl rfl (by decide) (x := Cert.ReferenceIdeal.main_v2141) (y := Cert.ReferenceIdeal.main_v2226) (f := open Cert.ReferenceIdeal Cert.ReferenceIdeal.Gen in (extractStridedSlice S8x1 ![8, 0] · slices_S16x1_S8x1_8_0)) (hx := ⟨by decide, rfl⟩) (hy := ⟨by decide, rfl⟩)
  rw [hk, hr, ← c_main_v712__main_v2141 hag hel]

theorem c_main_v761__main_v2227 : StableHlo.after Cert.KernelIdeal.Hand.KOps (Cert.KernelIdeal.Hand.Wl (F := Ideal) m ρ c) (Proc.devRef .tc Cert.KernelIdeal.main_v761) = StableHlo.after (Cert.ReferenceIdeal.Hand.ops (F := Ideal)) (StableHlo.launchContents m' c) (Proc.devRef .tc Cert.ReferenceIdeal.main_v2227) := by
  have hk := StableHlo.Ascending.eq_binary Cert.KernelIdeal.Hand.KOps_asc (Cert.KernelIdeal.Hand.Wl m ρ c) (Cert.KernelIdeal.Hand.mem_KOps_st9 (Cert.KernelIdeal.Hand.mem_st_9_6 (List.getElem_mem (l := Cert.KernelIdeal.GenP.hostOps9_6 (F := Ideal)) (n := 5) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part44 (List.getElem_mem (l := Cert.ReferenceIdeal.Hand.ops_part44 (F := Ideal)) (n := 79) (by decide))) rfl rfl rfl (by decide) (by decide) (ha := ⟨by decide, rfl⟩) (hb := ⟨by decide, rfl⟩) (hy := ⟨by decide, rfl⟩)
  rw [hk, hr, ← c_main_v757__main_v2223 hag hel, ← c_main_v760__main_v2226 hag hel]
  rfl

theorem c_main_v762__main_v2228 : StableHlo.after Cert.KernelIdeal.Hand.KOps (Cert.KernelIdeal.Hand.Wl (F := Ideal) m ρ c) (Proc.devRef .tc Cert.KernelIdeal.main_v762) = StableHlo.after (Cert.ReferenceIdeal.Hand.ops (F := Ideal)) (StableHlo.launchContents m' c) (Proc.devRef .tc Cert.ReferenceIdeal.main_v2228) := by
  have hk := StableHlo.Ascending.eq_unary Cert.KernelIdeal.Hand.KOps_asc (Cert.KernelIdeal.Hand.Wl m ρ c) (Cert.KernelIdeal.Hand.mem_KOps_st9 (Cert.KernelIdeal.Hand.mem_st_9_6 (List.getElem_mem (l := Cert.KernelIdeal.GenP.hostOps9_6 (F := Ideal)) (n := 6) (by decide)))) rfl rfl (by decide) (x := Cert.KernelIdeal.main_v761) (y := Cert.KernelIdeal.main_v762) (f := open Cert.KernelIdeal Cert.KernelIdeal.Gen in (transpose S1x2048 [1, 0] · transposes_S2048x1_S1x2048_1_0)) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part44 (List.getElem_mem (l := Cert.ReferenceIdeal.Hand.ops_part44 (F := Ideal)) (n := 80) (by decide))) rfl rfl (by decide) (x := Cert.ReferenceIdeal.main_v2227) (y := Cert.ReferenceIdeal.main_v2228) (f := open Cert.ReferenceIdeal Cert.ReferenceIdeal.Gen in (transpose S1x2048 [1, 0] · transposes_S2048x1_S1x2048_1_0)) (hx := ⟨by decide, rfl⟩) (hy := ⟨by decide, rfl⟩)
  rw [hk, hr, ← c_main_v761__main_v2227 hag hel]

theorem c_main_v763__main_v2229 : StableHlo.after Cert.KernelIdeal.Hand.KOps (Cert.KernelIdeal.Hand.Wl (F := Ideal) m ρ c) (Proc.devRef .tc Cert.KernelIdeal.main_v763) = StableHlo.after (Cert.ReferenceIdeal.Hand.ops (F := Ideal)) (StableHlo.launchContents m' c) (Proc.devRef .tc Cert.ReferenceIdeal.main_v2229) := by
  have hk := StableHlo.Ascending.eq_unary Cert.KernelIdeal.Hand.KOps_asc (Cert.KernelIdeal.Hand.Wl m ρ c) (Cert.KernelIdeal.Hand.mem_KOps_st9 (Cert.KernelIdeal.Hand.mem_st_9_6 (List.getElem_mem (l := Cert.KernelIdeal.GenP.hostOps9_6 (F := Ideal)) (n := 7) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part44 (List.getElem_mem (l := Cert.ReferenceIdeal.Hand.ops_part44 (F := Ideal)) (n := 81) (by decide))) rfl rfl (by decide) (hx := ⟨by decide, rfl⟩) (hy := ⟨by decide, rfl⟩)
  rw [hk, hr, ← c_main_v759__main_v2225 hag hel]

theorem c_main_v764__main_v2230 : StableHlo.after Cert.KernelIdeal.Hand.KOps (Cert.KernelIdeal.Hand.Wl (F := Ideal) m ρ c) (Proc.devRef .tc Cert.KernelIdeal.main_v764) = StableHlo.after (Cert.ReferenceIdeal.Hand.ops (F := Ideal)) (StableHlo.launchContents m' c) (Proc.devRef .tc Cert.ReferenceIdeal.main_v2230) := by
  have hk := StableHlo.Ascending.eq_unary Cert.KernelIdeal.Hand.KOps_asc (Cert.KernelIdeal.Hand.Wl m ρ c) (Cert.KernelIdeal.Hand.mem_KOps_st9 (Cert.KernelIdeal.Hand.mem_st_9_6 (List.getElem_mem (l := Cert.KernelIdeal.GenP.hostOps9_6 (F := Ideal)) (n := 8) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part45 (List.getElem_mem (l := Cert.ReferenceIdeal.Hand.ops_part45 (F := Ideal)) (n := 0) (by decide))) rfl rfl (by decide) (hx := ⟨by decide, rfl⟩) (hy := ⟨by decide, rfl⟩)
  rw [hk, hr, ← c_main_v762__main_v2228 hag hel]

theorem c_main_v765__main_v2231 : StableHlo.after Cert.KernelIdeal.Hand.KOps (Cert.KernelIdeal.Hand.Wl (F := Ideal) m ρ c) (Proc.devRef .tc Cert.KernelIdeal.main_v765) = StableHlo.after (Cert.ReferenceIdeal.Hand.ops (F := Ideal)) (StableHlo.launchContents m' c) (Proc.devRef .tc Cert.ReferenceIdeal.main_v2231) := by
  have hk := StableHlo.Ascending.eq_binary Cert.KernelIdeal.Hand.KOps_asc (Cert.KernelIdeal.Hand.Wl m ρ c) (Cert.KernelIdeal.Hand.mem_KOps_st9 (Cert.KernelIdeal.Hand.mem_st_9_6 (List.getElem_mem (l := Cert.KernelIdeal.GenP.hostOps9_6 (F := Ideal)) (n := 9) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part45 (List.getElem_mem (l := Cert.ReferenceIdeal.Hand.ops_part45 (F := Ideal)) (n := 1) (by decide))) rfl rfl rfl (by decide) (by decide) (ha := ⟨by decide, rfl⟩) (hb := ⟨by decide, rfl⟩) (hy := ⟨by decide, rfl⟩)
  rw [hk, hr, ← c_main_v763__main_v2229 hag hel, ← c_main_v764__main_v2230 hag hel]

theorem c_main_cst_144__main_cst_468 : StableHlo.after Cert.KernelIdeal.Hand.KOps (Cert.KernelIdeal.Hand.Wl (F := Ideal) m ρ c) (Proc.devRef .tc Cert.KernelIdeal.main_cst_144) = StableHlo.after (Cert.ReferenceIdeal.Hand.ops (F := Ideal)) (StableHlo.launchContents m' c) (Proc.devRef .tc Cert.ReferenceIdeal.main_cst_468) := by
  have hk := StableHlo.Ascending.eq_nullary Cert.KernelIdeal.Hand.KOps_asc (Cert.KernelIdeal.Hand.Wl m ρ c) (Cert.KernelIdeal.Hand.mem_KOps_st9 (Cert.KernelIdeal.Hand.mem_st_9_6 (List.getElem_mem (l := Cert.KernelIdeal.GenP.hostOps9_6 (F := Ideal)) (n := 10) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part45 (List.getElem_mem (l := Cert.ReferenceIdeal.Hand.ops_part45 (F := Ideal)) (n := 2) (by decide))) rfl (hy := ⟨by decide, rfl⟩)
  rw [hk, hr]

theorem c_main_call30_cst__main_call105_cst : StableHlo.after Cert.KernelIdeal.Hand.KOps (Cert.KernelIdeal.Hand.Wl (F := Ideal) m ρ c) (Proc.devRef .tc Cert.KernelIdeal.main_call30_cst) = StableHlo.after (Cert.ReferenceIdeal.Hand.ops (F := Ideal)) (StableHlo.launchContents m' c) (Proc.devRef .tc Cert.ReferenceIdeal.main_call105_cst) := by
  have hk := StableHlo.Ascending.eq_nullary Cert.KernelIdeal.Hand.KOps_asc (Cert.KernelIdeal.Hand.Wl m ρ c) (Cert.KernelIdeal.Hand.mem_KOps_st9 (Cert.KernelIdeal.Hand.mem_st_9_7 (List.getElem_mem (l := Cert.KernelIdeal.GenP.hostOps9_7 (F := Ideal)) (n := 0) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part45 (List.getElem_mem (l := Cert.ReferenceIdeal.Hand.ops_part45 (F := Ideal)) (n := 3) (by decide))) rfl (hy := ⟨by decide, rfl⟩)
  rw [hk, hr]

theorem c_main_call30_v0__main_call105_v0 : StableHlo.after Cert.KernelIdeal.Hand.KOps (Cert.KernelIdeal.Hand.Wl (F := Ideal) m ρ c) (Proc.devRef .tc Cert.KernelIdeal.main_call30_v0) = StableHlo.after (Cert.ReferenceIdeal.Hand.ops (F := Ideal)) (StableHlo.launchContents m' c) (Proc.devRef .tc Cert.ReferenceIdeal.main_call105_v0) := by
  have hk := StableHlo.Ascending.eq_unary Cert.KernelIdeal.Hand.KOps_asc (Cert.KernelIdeal.Hand.Wl m ρ c) (Cert.KernelIdeal.Hand.mem_KOps_st9 (Cert.KernelIdeal.Hand.mem_st_9_7 (List.getElem_mem (l := Cert.KernelIdeal.GenP.hostOps9_7 (F := Ideal)) (n := 1) (by decide)))) rfl rfl (by decide) (x := Cert.KernelIdeal.main_call30_cst) (y := Cert.KernelIdeal.main_call30_v0) (f := open Cert.KernelIdeal Cert.KernelIdeal.Gen in (broadcastInDim S2048x2048 ![] bcast_S_S2048x2048)) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part45 (List.getElem_mem (l := Cert.ReferenceIdeal.Hand.ops_part45 (F := Ideal)) (n := 4) (by decide))) rfl rfl (by decide) (x := Cert.ReferenceIdeal.main_call105_cst) (y := Cert.ReferenceIdeal.main_call105_v0) (f := open Cert.ReferenceIdeal Cert.ReferenceIdeal.Gen in (broadcastInDim S2048x2048 ![] bcast_S_S2048x2048)) (hx := ⟨by decide, rfl⟩) (hy := ⟨by decide, rfl⟩)
  rw [hk, hr, ← c_main_call30_cst__main_call105_cst hag hel]

theorem c_main_call30_v1__main_call105_v1 : StableHlo.after Cert.KernelIdeal.Hand.KOps (Cert.KernelIdeal.Hand.Wl (F := Ideal) m ρ c) (Proc.devRef .tc Cert.KernelIdeal.main_call30_v1) = StableHlo.after (Cert.ReferenceIdeal.Hand.ops (F := Ideal)) (StableHlo.launchContents m' c) (Proc.devRef .tc Cert.ReferenceIdeal.main_call105_v1) := by
  have hk := StableHlo.Ascending.eq_binary Cert.KernelIdeal.Hand.KOps_asc (Cert.KernelIdeal.Hand.Wl m ρ c) (Cert.KernelIdeal.Hand.mem_KOps_st9 (Cert.KernelIdeal.Hand.mem_st_9_7 (List.getElem_mem (l := Cert.KernelIdeal.GenP.hostOps9_7 (F := Ideal)) (n := 2) (by decide)))) rfl rfl rfl (by decide) (by decide) (a := Cert.KernelIdeal.main_v765) (b := Cert.KernelIdeal.main_call30_v0) (y := Cert.KernelIdeal.main_call30_v1) (f := open Cert.KernelIdeal Cert.KernelIdeal.Gen in (cmpf (F := Ideal) .oge)) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part45 (List.getElem_mem (l := Cert.ReferenceIdeal.Hand.ops_part45 (F := Ideal)) (n := 5) (by decide))) rfl rfl rfl (by decide) (by decide) (a := Cert.ReferenceIdeal.main_v2231) (b := Cert.ReferenceIdeal.main_call105_v0) (y := Cert.ReferenceIdeal.main_call105_v1) (f := open Cert.ReferenceIdeal Cert.ReferenceIdeal.Gen in (cmpf (F := Ideal) .oge)) (ha := ⟨by decide, rfl⟩) (hb := ⟨by decide, rfl⟩) (hy := ⟨by decide, rfl⟩)
  rw [hk, hr, ← c_main_v765__main_v2231 hag hel, ← c_main_call30_v0__main_call105_v0 hag hel]

theorem c_main_call30_v2__main_call105_v2 : StableHlo.after Cert.KernelIdeal.Hand.KOps (Cert.KernelIdeal.Hand.Wl (F := Ideal) m ρ c) (Proc.devRef .tc Cert.KernelIdeal.main_call30_v2) = StableHlo.after (Cert.ReferenceIdeal.Hand.ops (F := Ideal)) (StableHlo.launchContents m' c) (Proc.devRef .tc Cert.ReferenceIdeal.main_call105_v2) := by
  have hk := StableHlo.Ascending.eq_unary Cert.KernelIdeal.Hand.KOps_asc (Cert.KernelIdeal.Hand.Wl m ρ c) (Cert.KernelIdeal.Hand.mem_KOps_st9 (Cert.KernelIdeal.Hand.mem_st_9_7 (List.getElem_mem (l := Cert.KernelIdeal.GenP.hostOps9_7 (F := Ideal)) (n := 3) (by decide)))) rfl rfl (by decide) (x := Cert.KernelIdeal.main_cst_144) (y := Cert.KernelIdeal.main_call30_v2) (f := open Cert.KernelIdeal Cert.KernelIdeal.Gen in id) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part45 (List.getElem_mem (l := Cert.ReferenceIdeal.Hand.ops_part45 (F := Ideal)) (n := 6) (by decide))) rfl rfl (by decide) (x := Cert.ReferenceIdeal.main_cst_468) (y := Cert.ReferenceIdeal.main_call105_v2) (f := open Cert.ReferenceIdeal Cert.ReferenceIdeal.Gen in id) (hx := ⟨by decide, rfl⟩) (hy := ⟨by decide, rfl⟩)
  rw [hk, hr, ← c_main_cst_144__main_cst_468 hag hel]

theorem c_main_call30_v3__main_call105_v3 : StableHlo.after Cert.KernelIdeal.Hand.KOps (Cert.KernelIdeal.Hand.Wl (F := Ideal) m ρ c) (Proc.devRef .tc Cert.KernelIdeal.main_call30_v3) = StableHlo.after (Cert.ReferenceIdeal.Hand.ops (F := Ideal)) (StableHlo.launchContents m' c) (Proc.devRef .tc Cert.ReferenceIdeal.main_call105_v3) := by
  have hk := StableHlo.Ascending.eq_unary Cert.KernelIdeal.Hand.KOps_asc (Cert.KernelIdeal.Hand.Wl m ρ c) (Cert.KernelIdeal.Hand.mem_KOps_st9 (Cert.KernelIdeal.Hand.mem_st_9_7 (List.getElem_mem (l := Cert.KernelIdeal.GenP.hostOps9_7 (F := Ideal)) (n := 4) (by decide)))) rfl rfl (by decide) (x := Cert.KernelIdeal.main_call30_v2) (y := Cert.KernelIdeal.main_call30_v3) (f := open Cert.KernelIdeal Cert.KernelIdeal.Gen in (broadcastInDim S2048x2048 ![] bcast_S_S2048x2048)) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part45 (List.getElem_mem (l := Cert.ReferenceIdeal.Hand.ops_part45 (F := Ideal)) (n := 7) (by decide))) rfl rfl (by decide) (x := Cert.ReferenceIdeal.main_call105_v2) (y := Cert.ReferenceIdeal.main_call105_v3) (f := open Cert.ReferenceIdeal Cert.ReferenceIdeal.Gen in (broadcastInDim S2048x2048 ![] bcast_S_S2048x2048)) (hx := ⟨by decide, rfl⟩) (hy := ⟨by decide, rfl⟩)
  rw [hk, hr, ← c_main_call30_v2__main_call105_v2 hag hel]

theorem c_main_call30_v4__main_call105_v4 : StableHlo.after Cert.KernelIdeal.Hand.KOps (Cert.KernelIdeal.Hand.Wl (F := Ideal) m ρ c) (Proc.devRef .tc Cert.KernelIdeal.main_call30_v4) = StableHlo.after (Cert.ReferenceIdeal.Hand.ops (F := Ideal)) (StableHlo.launchContents m' c) (Proc.devRef .tc Cert.ReferenceIdeal.main_call105_v4) := by
  have hk := StableHlo.Ascending.eq_binary Cert.KernelIdeal.Hand.KOps_asc (Cert.KernelIdeal.Hand.Wl m ρ c) (Cert.KernelIdeal.Hand.mem_KOps_st9 (Cert.KernelIdeal.Hand.mem_st_9_7 (List.getElem_mem (l := Cert.KernelIdeal.GenP.hostOps9_7 (F := Ideal)) (n := 5) (by decide)))) rfl rfl rfl (by decide) (by decide) (a := Cert.KernelIdeal.main_call30_v3) (b := Cert.KernelIdeal.main_v765) (y := Cert.KernelIdeal.main_call30_v4) (f := open Cert.KernelIdeal Cert.KernelIdeal.Gen in mulf (F := Ideal)) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part45 (List.getElem_mem (l := Cert.ReferenceIdeal.Hand.ops_part45 (F := Ideal)) (n := 8) (by decide))) rfl rfl rfl (by decide) (by decide) (a := Cert.ReferenceIdeal.main_call105_v3) (b := Cert.ReferenceIdeal.main_v2231) (y := Cert.ReferenceIdeal.main_call105_v4) (f := open Cert.ReferenceIdeal Cert.ReferenceIdeal.Gen in mulf (F := Ideal)) (ha := ⟨by decide, rfl⟩) (hb := ⟨by decide, rfl⟩) (hy := ⟨by decide, rfl⟩)
  rw [hk, hr, ← c_main_call30_v3__main_call105_v3 hag hel, ← c_main_v765__main_v2231 hag hel]

theorem c_main_v766__main_v2232 : StableHlo.after Cert.KernelIdeal.Hand.KOps (Cert.KernelIdeal.Hand.Wl (F := Ideal) m ρ c) (Proc.devRef .tc Cert.KernelIdeal.main_v766) = StableHlo.after (Cert.ReferenceIdeal.Hand.ops (F := Ideal)) (StableHlo.launchContents m' c) (Proc.devRef .tc Cert.ReferenceIdeal.main_v2232) := by
  have hk := StableHlo.Ascending.eq_ternary Cert.KernelIdeal.Hand.KOps_asc (Cert.KernelIdeal.Hand.Wl m ρ c) (Cert.KernelIdeal.Hand.mem_KOps_st9 (Cert.KernelIdeal.Hand.mem_st_9_7 (List.getElem_mem (l := Cert.KernelIdeal.GenP.hostOps9_7 (F := Ideal)) (n := 6) (by decide)))) rfl rfl rfl rfl (by decide) (by decide) (by decide) (c := Cert.KernelIdeal.main_call30_v1) (a := Cert.KernelIdeal.main_v765) (b := Cert.KernelIdeal.main_call30_v4) (y := Cert.KernelIdeal.main_v766) (f := (select : (⟨Cert.KernelIdeal.S2048x2048, .i1⟩ : BufTy).Contents (Elt Ideal) → (⟨Cert.KernelIdeal.S2048x2048, .f32⟩ : BufTy).Contents (Elt Ideal) → (⟨Cert.KernelIdeal.S2048x2048, .f32⟩ : BufTy).Contents (Elt Ideal) → (⟨Cert.KernelIdeal.S2048x2048, .f32⟩ : BufTy).Contents (Elt Ideal))) (hc := ⟨by decide, rfl⟩) (ha := ⟨by decide, rfl⟩) (hb := ⟨by decide, rfl⟩) (hy := ⟨by decide, rfl⟩)
  have hr := StableHlo.Ascending.eq_ternary (Cert.ReferenceIdeal.Hand.ops_asc (F := Ideal)) (StableHlo.launchContents m' c) (Cert.ReferenceIdeal.Hand.mem_ops_part45 (List.getElem_mem (l := Cert.ReferenceIdeal.Hand.ops_part45 (F := Ideal)) (n := 9) (by decide))) rfl rfl rfl rfl (by decide) (by decide) (by decide) (c := Cert.ReferenceIdeal.main_call105_v1) (a := Cert.ReferenceIdeal.main_v2231) (b := Cert.ReferenceIdeal.main_call105_v4) (y := Cert.ReferenceIdeal.main_v2232) (f := (select : (⟨Cert.ReferenceIdeal.S2048x2048, .i1⟩ : BufTy).Contents (Elt Ideal) → (⟨Cert.ReferenceIdeal.S2048x2048, .f32⟩ : BufTy).Contents (Elt Ideal) → (⟨Cert.ReferenceIdeal.S2048x2048, .f32⟩ : BufTy).Contents (Elt Ideal) → (⟨Cert.ReferenceIdeal.S2048x2048, .f32⟩ : BufTy).Contents (Elt Ideal))) (hc := ⟨by decide, rfl⟩) (ha := ⟨by decide, rfl⟩) (hb := ⟨by decide, rfl⟩) (hy := ⟨by decide, rfl⟩)
  rw [hk, hr, ← c_main_call30_v1__main_call105_v1 hag hel, ← c_main_v765__main_v2231 hag hel, ← c_main_call30_v4__main_call105_v4 hag hel]

theorem c_main_cst_145__main_cst_469 : StableHlo.after Cert.KernelIdeal.Hand.KOps (Cert.KernelIdeal.Hand.Wl (F := Ideal) m ρ c) (Proc.devRef .tc Cert.KernelIdeal.main_cst_145) = StableHlo.after (Cert.ReferenceIdeal.Hand.ops (F := Ideal)) (StableHlo.launchContents m' c) (Proc.devRef .tc Cert.ReferenceIdeal.main_cst_469) := by
  have hk := StableHlo.Ascending.eq_nullary Cert.KernelIdeal.Hand.KOps_asc (Cert.KernelIdeal.Hand.Wl m ρ c) (Cert.KernelIdeal.Hand.mem_KOps_st9 (Cert.KernelIdeal.Hand.mem_st_9_8 (List.getElem_mem (l := Cert.KernelIdeal.GenP.hostOps9_8 (F := Ideal)) (n := 0) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part45 (List.getElem_mem (l := Cert.ReferenceIdeal.Hand.ops_part45 (F := Ideal)) (n := 10) (by decide))) rfl (hy := ⟨by decide, rfl⟩)
  rw [hk, hr]

theorem c_main_v767__main_v2233 : StableHlo.after Cert.KernelIdeal.Hand.KOps (Cert.KernelIdeal.Hand.Wl (F := Ideal) m ρ c) (Proc.devRef .tc Cert.KernelIdeal.main_v767) = StableHlo.after (Cert.ReferenceIdeal.Hand.ops (F := Ideal)) (StableHlo.launchContents m' c) (Proc.devRef .tc Cert.ReferenceIdeal.main_v2233) := by
  have hk := StableHlo.Ascending.eq_binary Cert.KernelIdeal.Hand.KOps_asc (Cert.KernelIdeal.Hand.Wl m ρ c) (Cert.KernelIdeal.Hand.mem_KOps_st9 (Cert.KernelIdeal.Hand.mem_st_9_8 (List.getElem_mem (l := Cert.KernelIdeal.GenP.hostOps9_8 (F := Ideal)) (n := 1) (by decide)))) rfl rfl rfl (by decide) (by decide) (a := Cert.KernelIdeal.main_v710) (b := Cert.KernelIdeal.main_cst_145) (y := Cert.KernelIdeal.main_v767) (f := open Cert.KernelIdeal Cert.KernelIdeal.Gen in (fun x v => Host.reduce (FloatOps.minimumf (F := Ideal)) x v reducesTo_S2048x1_S_d0_1 h_S_)) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part45 (List.getElem_mem (l := Cert.ReferenceIdeal.Hand.ops_part45 (F := Ideal)) (n := 11) (by decide))) rfl rfl rfl (by decide) (by decide) (a := Cert.ReferenceIdeal.main_v2178) (b := Cert.ReferenceIdeal.main_cst_469) (y := Cert.ReferenceIdeal.main_v2233) (f := open Cert.ReferenceIdeal Cert.ReferenceIdeal.Gen in (fun x v => Host.reduce (FloatOps.minimumf (F := Ideal)) x v reducesTo_S2048x1_S_d0_1 h_S_)) (ha := ⟨by decide, rfl⟩) (hb := ⟨by decide, rfl⟩) (hy := ⟨by decide, rfl⟩)
  rw [hk, hr, ← c_main_v710__main_v2178 hag hel, ← c_main_cst_145__main_cst_469 hag hel]

theorem c_main_v768__main_v2234 : StableHlo.after Cert.KernelIdeal.Hand.KOps (Cert.KernelIdeal.Hand.Wl (F := Ideal) m ρ c) (Proc.devRef .tc Cert.KernelIdeal.main_v768) = StableHlo.after (Cert.ReferenceIdeal.Hand.ops (F := Ideal)) (StableHlo.launchContents m' c) (Proc.devRef .tc Cert.ReferenceIdeal.main_v2234) := by
  have hk := StableHlo.Ascending.eq_unary Cert.KernelIdeal.Hand.KOps_asc (Cert.KernelIdeal.Hand.Wl m ρ c) (Cert.KernelIdeal.Hand.mem_KOps_st9 (Cert.KernelIdeal.Hand.mem_st_9_8 (List.getElem_mem (l := Cert.KernelIdeal.GenP.hostOps9_8 (F := Ideal)) (n := 2) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part45 (List.getElem_mem (l := Cert.ReferenceIdeal.Hand.ops_part45 (F := Ideal)) (n := 12) (by decide))) rfl rfl (by decide) (hx := ⟨by decide, rfl⟩) (hy := ⟨by decide, rfl⟩)
  rw [hk, hr, ← c_main_v767__main_v2233 hag hel]

theorem c_main_v769__main_v2235 : StableHlo.after Cert.KernelIdeal.Hand.KOps (Cert.KernelIdeal.Hand.Wl (F := Ideal) m ρ c) (Proc.devRef .tc Cert.KernelIdeal.main_v769) = StableHlo.after (Cert.ReferenceIdeal.Hand.ops (F := Ideal)) (StableHlo.launchContents m' c) (Proc.devRef .tc Cert.ReferenceIdeal.main_v2235) := by
  have hk := StableHlo.Ascending.eq_binary Cert.KernelIdeal.Hand.KOps_asc (Cert.KernelIdeal.Hand.Wl m ρ c) (Cert.KernelIdeal.Hand.mem_KOps_st9 (Cert.KernelIdeal.Hand.mem_st_9_8 (List.getElem_mem (l := Cert.KernelIdeal.GenP.hostOps9_8 (F := Ideal)) (n := 3) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part45 (List.getElem_mem (l := Cert.ReferenceIdeal.Hand.ops_part45 (F := Ideal)) (n := 13) (by decide))) rfl rfl rfl (by decide) (by decide) (ha := ⟨by decide, rfl⟩) (hb := ⟨by decide, rfl⟩) (hy := ⟨by decide, rfl⟩)
  rw [hk, hr, ← c_main_v710__main_v2178 hag hel, ← c_main_v768__main_v2234 hag hel]

theorem c_main_cst_146__main_cst_470 : StableHlo.after Cert.KernelIdeal.Hand.KOps (Cert.KernelIdeal.Hand.Wl (F := Ideal) m ρ c) (Proc.devRef .tc Cert.KernelIdeal.main_cst_146) = StableHlo.after (Cert.ReferenceIdeal.Hand.ops (F := Ideal)) (StableHlo.launchContents m' c) (Proc.devRef .tc Cert.ReferenceIdeal.main_cst_470) := by
  have hk := StableHlo.Ascending.eq_nullary Cert.KernelIdeal.Hand.KOps_asc (Cert.KernelIdeal.Hand.Wl m ρ c) (Cert.KernelIdeal.Hand.mem_KOps_st9 (Cert.KernelIdeal.Hand.mem_st_9_8 (List.getElem_mem (l := Cert.KernelIdeal.GenP.hostOps9_8 (F := Ideal)) (n := 4) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part45 (List.getElem_mem (l := Cert.ReferenceIdeal.Hand.ops_part45 (F := Ideal)) (n := 14) (by decide))) rfl (hy := ⟨by decide, rfl⟩)
  rw [hk, hr]

theorem c_main_v770__main_v2236 : StableHlo.after Cert.KernelIdeal.Hand.KOps (Cert.KernelIdeal.Hand.Wl (F := Ideal) m ρ c) (Proc.devRef .tc Cert.KernelIdeal.main_v770) = StableHlo.after (Cert.ReferenceIdeal.Hand.ops (F := Ideal)) (StableHlo.launchContents m' c) (Proc.devRef .tc Cert.ReferenceIdeal.main_v2236) := by
  have hk := StableHlo.Ascending.eq_binary Cert.KernelIdeal.Hand.KOps_asc (Cert.KernelIdeal.Hand.Wl m ρ c) (Cert.KernelIdeal.Hand.mem_KOps_st9 (Cert.KernelIdeal.Hand.mem_st_9_8 (List.getElem_mem (l := Cert.KernelIdeal.GenP.hostOps9_8 (F := Ideal)) (n := 5) (by decide)))) rfl rfl rfl (by decide) (by decide) (a := Cert.KernelIdeal.main_v710) (b := Cert.KernelIdeal.main_cst_146) (y := Cert.KernelIdeal.main_v770) (f := open Cert.KernelIdeal Cert.KernelIdeal.Gen in (fun x v => Host.reduce (FloatOps.maximumf (F := Ideal)) x v reducesTo_S2048x1_S_d0_1 h_S_)) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part45 (List.getElem_mem (l := Cert.ReferenceIdeal.Hand.ops_part45 (F := Ideal)) (n := 15) (by decide))) rfl rfl rfl (by decide) (by decide) (a := Cert.ReferenceIdeal.main_v2178) (b := Cert.ReferenceIdeal.main_cst_470) (y := Cert.ReferenceIdeal.main_v2236) (f := open Cert.ReferenceIdeal Cert.ReferenceIdeal.Gen in (fun x v => Host.reduce (FloatOps.maximumf (F := Ideal)) x v reducesTo_S2048x1_S_d0_1 h_S_)) (ha := ⟨by decide, rfl⟩) (hb := ⟨by decide, rfl⟩) (hy := ⟨by decide, rfl⟩)
  rw [hk, hr, ← c_main_v710__main_v2178 hag hel, ← c_main_cst_146__main_cst_470 hag hel]

theorem c_main_cst_147__main_cst_471 : StableHlo.after Cert.KernelIdeal.Hand.KOps (Cert.KernelIdeal.Hand.Wl (F := Ideal) m ρ c) (Proc.devRef .tc Cert.KernelIdeal.main_cst_147) = StableHlo.after (Cert.ReferenceIdeal.Hand.ops (F := Ideal)) (StableHlo.launchContents m' c) (Proc.devRef .tc Cert.ReferenceIdeal.main_cst_471) := by
  have hk := StableHlo.Ascending.eq_nullary Cert.KernelIdeal.Hand.KOps_asc (Cert.KernelIdeal.Hand.Wl m ρ c) (Cert.KernelIdeal.Hand.mem_KOps_st9 (Cert.KernelIdeal.Hand.mem_st_9_8 (List.getElem_mem (l := Cert.KernelIdeal.GenP.hostOps9_8 (F := Ideal)) (n := 6) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part45 (List.getElem_mem (l := Cert.ReferenceIdeal.Hand.ops_part45 (F := Ideal)) (n := 16) (by decide))) rfl (hy := ⟨by decide, rfl⟩)
  rw [hk, hr]

theorem c_main_v771__main_v2237 : StableHlo.after Cert.KernelIdeal.Hand.KOps (Cert.KernelIdeal.Hand.Wl (F := Ideal) m ρ c) (Proc.devRef .tc Cert.KernelIdeal.main_v771) = StableHlo.after (Cert.ReferenceIdeal.Hand.ops (F := Ideal)) (StableHlo.launchContents m' c) (Proc.devRef .tc Cert.ReferenceIdeal.main_v2237) := by
  have hk := StableHlo.Ascending.eq_binary Cert.KernelIdeal.Hand.KOps_asc (Cert.KernelIdeal.Hand.Wl m ρ c) (Cert.KernelIdeal.Hand.mem_KOps_st9 (Cert.KernelIdeal.Hand.mem_st_9_8 (List.getElem_mem (l := Cert.KernelIdeal.GenP.hostOps9_8 (F := Ideal)) (n := 7) (by decide)))) rfl rfl rfl (by decide) (by decide) (a := Cert.KernelIdeal.main_v710) (b := Cert.KernelIdeal.main_cst_147) (y := Cert.KernelIdeal.main_v771) (f := open Cert.KernelIdeal Cert.KernelIdeal.Gen in (fun x v => Host.reduce (FloatOps.minimumf (F := Ideal)) x v reducesTo_S2048x1_S_d0_1 h_S_)) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part45 (List.getElem_mem (l := Cert.ReferenceIdeal.Hand.ops_part45 (F := Ideal)) (n := 17) (by decide))) rfl rfl rfl (by decide) (by decide) (a := Cert.ReferenceIdeal.main_v2178) (b := Cert.ReferenceIdeal.main_cst_471) (y := Cert.ReferenceIdeal.main_v2237) (f := open Cert.ReferenceIdeal Cert.ReferenceIdeal.Gen in (fun x v => Host.reduce (FloatOps.minimumf (F := Ideal)) x v reducesTo_S2048x1_S_d0_1 h_S_)) (ha := ⟨by decide, rfl⟩) (hb := ⟨by decide, rfl⟩) (hy := ⟨by decide, rfl⟩)
  rw [hk, hr, ← c_main_v710__main_v2178 hag hel, ← c_main_cst_147__main_cst_471 hag hel]

theorem c_main_v772__main_v2238 : StableHlo.after Cert.KernelIdeal.Hand.KOps (Cert.KernelIdeal.Hand.Wl (F := Ideal) m ρ c) (Proc.devRef .tc Cert.KernelIdeal.main_v772) = StableHlo.after (Cert.ReferenceIdeal.Hand.ops (F := Ideal)) (StableHlo.launchContents m' c) (Proc.devRef .tc Cert.ReferenceIdeal.main_v2238) := by
  have hk := StableHlo.Ascending.eq_binary Cert.KernelIdeal.Hand.KOps_asc (Cert.KernelIdeal.Hand.Wl m ρ c) (Cert.KernelIdeal.Hand.mem_KOps_st9 (Cert.KernelIdeal.Hand.mem_st_9_8 (List.getElem_mem (l := Cert.KernelIdeal.GenP.hostOps9_8 (F := Ideal)) (n := 8) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part45 (List.getElem_mem (l := Cert.ReferenceIdeal.Hand.ops_part45 (F := Ideal)) (n := 18) (by decide))) rfl rfl rfl (by decide) (by decide) (ha := ⟨by decide, rfl⟩) (hb := ⟨by decide, rfl⟩) (hy := ⟨by decide, rfl⟩)
  rw [hk, hr, ← c_main_v770__main_v2236 hag hel, ← c_main_v771__main_v2237 hag hel]

theorem c_main_v773__main_v2239 : StableHlo.after Cert.KernelIdeal.Hand.KOps (Cert.KernelIdeal.Hand.Wl (F := Ideal) m ρ c) (Proc.devRef .tc Cert.KernelIdeal.main_v773) = StableHlo.after (Cert.ReferenceIdeal.Hand.ops (F := Ideal)) (StableHlo.launchContents m' c) (Proc.devRef .tc Cert.ReferenceIdeal.main_v2239) := by
  have hk := StableHlo.Ascending.eq_unary Cert.KernelIdeal.Hand.KOps_asc (Cert.KernelIdeal.Hand.Wl m ρ c) (Cert.KernelIdeal.Hand.mem_KOps_st9 (Cert.KernelIdeal.Hand.mem_st_9_8 (List.getElem_mem (l := Cert.KernelIdeal.GenP.hostOps9_8 (F := Ideal)) (n := 9) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part45 (List.getElem_mem (l := Cert.ReferenceIdeal.Hand.ops_part45 (F := Ideal)) (n := 19) (by decide))) rfl rfl (by decide) (hx := ⟨by decide, rfl⟩) (hy := ⟨by decide, rfl⟩)
  rw [hk, hr, ← c_main_v772__main_v2238 hag hel]

theorem c_main_v774__main_v2240 : StableHlo.after Cert.KernelIdeal.Hand.KOps (Cert.KernelIdeal.Hand.Wl (F := Ideal) m ρ c) (Proc.devRef .tc Cert.KernelIdeal.main_v774) = StableHlo.after (Cert.ReferenceIdeal.Hand.ops (F := Ideal)) (StableHlo.launchContents m' c) (Proc.devRef .tc Cert.ReferenceIdeal.main_v2240) := by
  have hk := StableHlo.Ascending.eq_binary Cert.KernelIdeal.Hand.KOps_asc (Cert.KernelIdeal.Hand.Wl m ρ c) (Cert.KernelIdeal.Hand.mem_KOps_st9 (Cert.KernelIdeal.Hand.mem_st_9_8 (List.getElem_mem (l := Cert.KernelIdeal.GenP.hostOps9_8 (F := Ideal)) (n := 10) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part45 (List.getElem_mem (l := Cert.ReferenceIdeal.Hand.ops_part45 (F := Ideal)) (n := 20) (by decide))) rfl rfl rfl (by decide) (by decide) (ha := ⟨by decide, rfl⟩) (hb := ⟨by decide, rfl⟩) (hy := ⟨by decide, rfl⟩)
  rw [hk, hr, ← c_main_v769__main_v2235 hag hel, ← c_main_v773__main_v2239 hag hel]

theorem c_main_cst_148__main_cst_472 : StableHlo.after Cert.KernelIdeal.Hand.KOps (Cert.KernelIdeal.Hand.Wl (F := Ideal) m ρ c) (Proc.devRef .tc Cert.KernelIdeal.main_cst_148) = StableHlo.after (Cert.ReferenceIdeal.Hand.ops (F := Ideal)) (StableHlo.launchContents m' c) (Proc.devRef .tc Cert.ReferenceIdeal.main_cst_472) := by
  have hk := StableHlo.Ascending.eq_nullary Cert.KernelIdeal.Hand.KOps_asc (Cert.KernelIdeal.Hand.Wl m ρ c) (Cert.KernelIdeal.Hand.mem_KOps_st9 (Cert.KernelIdeal.Hand.mem_st_9_8 (List.getElem_mem (l := Cert.KernelIdeal.GenP.hostOps9_8 (F := Ideal)) (n := 11) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part45 (List.getElem_mem (l := Cert.ReferenceIdeal.Hand.ops_part45 (F := Ideal)) (n := 21) (by decide))) rfl (hy := ⟨by decide, rfl⟩)
  rw [hk, hr]

theorem c_main_v775__main_v2241 : StableHlo.after Cert.KernelIdeal.Hand.KOps (Cert.KernelIdeal.Hand.Wl (F := Ideal) m ρ c) (Proc.devRef .tc Cert.KernelIdeal.main_v775) = StableHlo.after (Cert.ReferenceIdeal.Hand.ops (F := Ideal)) (StableHlo.launchContents m' c) (Proc.devRef .tc Cert.ReferenceIdeal.main_v2241) := by
  have hk := StableHlo.Ascending.eq_binary Cert.KernelIdeal.Hand.KOps_asc (Cert.KernelIdeal.Hand.Wl m ρ c) (Cert.KernelIdeal.Hand.mem_KOps_st9 (Cert.KernelIdeal.Hand.mem_st_9_8 (List.getElem_mem (l := Cert.KernelIdeal.GenP.hostOps9_8 (F := Ideal)) (n := 12) (by decide)))) rfl rfl rfl (by decide) (by decide) (a := Cert.KernelIdeal.main_v766) (b := Cert.KernelIdeal.main_cst_148) (y := Cert.KernelIdeal.main_v775) (f := open Cert.KernelIdeal Cert.KernelIdeal.Gen in (fun x v => Host.reduce (FloatOps.maximumf (F := Ideal)) x v reducesTo_S2048x2048_S_d0_1 h_S_)) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part45 (List.getElem_mem (l := Cert.ReferenceIdeal.Hand.ops_part45 (F := Ideal)) (n := 22) (by decide))) rfl rfl rfl (by decide) (by decide) (a := Cert.ReferenceIdeal.main_v2232) (b := Cert.ReferenceIdeal.main_cst_472) (y := Cert.ReferenceIdeal.main_v2241) (f := open Cert.ReferenceIdeal Cert.ReferenceIdeal.Gen in (fun x v => Host.reduce (FloatOps.maximumf (F := Ideal)) x v reducesTo_S2048x2048_S_d0_1 h_S_)) (ha := ⟨by decide, rfl⟩) (hb := ⟨by decide, rfl⟩) (hy := ⟨by decide, rfl⟩)
  rw [hk, hr, ← c_main_v766__main_v2232 hag hel, ← c_main_cst_148__main_cst_472 hag hel]

theorem c_main_v776__main_v2242 : StableHlo.after Cert.KernelIdeal.Hand.KOps (Cert.KernelIdeal.Hand.Wl (F := Ideal) m ρ c) (Proc.devRef .tc Cert.KernelIdeal.main_v776) = StableHlo.after (Cert.ReferenceIdeal.Hand.ops (F := Ideal)) (StableHlo.launchContents m' c) (Proc.devRef .tc Cert.ReferenceIdeal.main_v2242) := by
  have hk := StableHlo.Ascending.eq_unary Cert.KernelIdeal.Hand.KOps_asc (Cert.KernelIdeal.Hand.Wl m ρ c) (Cert.KernelIdeal.Hand.mem_KOps_st9 (Cert.KernelIdeal.Hand.mem_st_9_8 (List.getElem_mem (l := Cert.KernelIdeal.GenP.hostOps9_8 (F := Ideal)) (n := 13) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part45 (List.getElem_mem (l := Cert.ReferenceIdeal.Hand.ops_part45 (F := Ideal)) (n := 23) (by decide))) rfl rfl (by decide) (hx := ⟨by decide, rfl⟩) (hy := ⟨by decide, rfl⟩)
  rw [hk, hr, ← c_main_v775__main_v2241 hag hel]

theorem c_main_v777__main_v2243 : StableHlo.after Cert.KernelIdeal.Hand.KOps (Cert.KernelIdeal.Hand.Wl (F := Ideal) m ρ c) (Proc.devRef .tc Cert.KernelIdeal.main_v777) = StableHlo.after (Cert.ReferenceIdeal.Hand.ops (F := Ideal)) (StableHlo.launchContents m' c) (Proc.devRef .tc Cert.ReferenceIdeal.main_v2243) := by
  have hk := StableHlo.Ascending.eq_binary Cert.KernelIdeal.Hand.KOps_asc (Cert.KernelIdeal.Hand.Wl m ρ c) (Cert.KernelIdeal.Hand.mem_KOps_st9 (Cert.KernelIdeal.Hand.mem_st_9_8 (List.getElem_mem (l := Cert.KernelIdeal.GenP.hostOps9_8 (F := Ideal)) (n := 14) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part45 (List.getElem_mem (l := Cert.ReferenceIdeal.Hand.ops_part45 (F := Ideal)) (n := 24) (by decide))) rfl rfl rfl (by decide) (by decide) (ha := ⟨by decide, rfl⟩) (hb := ⟨by decide, rfl⟩) (hy := ⟨by decide, rfl⟩)
  rw [hk, hr, ← c_main_v774__main_v2240 hag hel, ← c_main_v776__main_v2242 hag hel]

theorem c_main_cst_149__main_cst_473 : StableHlo.after Cert.KernelIdeal.Hand.KOps (Cert.KernelIdeal.Hand.Wl (F := Ideal) m ρ c) (Proc.devRef .tc Cert.KernelIdeal.main_cst_149) = StableHlo.after (Cert.ReferenceIdeal.Hand.ops (F := Ideal)) (StableHlo.launchContents m' c) (Proc.devRef .tc Cert.ReferenceIdeal.main_cst_473) := by
  have hk := StableHlo.Ascending.eq_nullary Cert.KernelIdeal.Hand.KOps_asc (Cert.KernelIdeal.Hand.Wl m ρ c) (Cert.KernelIdeal.Hand.mem_KOps_st9 (Cert.KernelIdeal.Hand.mem_st_9_8 (List.getElem_mem (l := Cert.KernelIdeal.GenP.hostOps9_8 (F := Ideal)) (n := 15) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part45 (List.getElem_mem (l := Cert.ReferenceIdeal.Hand.ops_part45 (F := Ideal)) (n := 25) (by decide))) rfl (hy := ⟨by decide, rfl⟩)
  rw [hk, hr]

theorem c_main_v778__main_v2244 : StableHlo.after Cert.KernelIdeal.Hand.KOps (Cert.KernelIdeal.Hand.Wl (F := Ideal) m ρ c) (Proc.devRef .tc Cert.KernelIdeal.main_v778) = StableHlo.after (Cert.ReferenceIdeal.Hand.ops (F := Ideal)) (StableHlo.launchContents m' c) (Proc.devRef .tc Cert.ReferenceIdeal.main_v2244) := by
  have hk := StableHlo.Ascending.eq_unary Cert.KernelIdeal.Hand.KOps_asc (Cert.KernelIdeal.Hand.Wl m ρ c) (Cert.KernelIdeal.Hand.mem_KOps_st9 (Cert.KernelIdeal.Hand.mem_st_9_8 (List.getElem_mem (l := Cert.KernelIdeal.GenP.hostOps9_8 (F := Ideal)) (n := 16) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part45 (List.getElem_mem (l := Cert.ReferenceIdeal.Hand.ops_part45 (F := Ideal)) (n := 26) (by decide))) rfl rfl (by decide) (hx := ⟨by decide, rfl⟩) (hy := ⟨by decide, rfl⟩)
  rw [hk, hr, ← c_main_cst_149__main_cst_473 hag hel]

theorem c_main_v779__main_v2245 : StableHlo.after Cert.KernelIdeal.Hand.KOps (Cert.KernelIdeal.Hand.Wl (F := Ideal) m ρ c) (Proc.devRef .tc Cert.KernelIdeal.main_v779) = StableHlo.after (Cert.ReferenceIdeal.Hand.ops (F := Ideal)) (StableHlo.launchContents m' c) (Proc.devRef .tc Cert.ReferenceIdeal.main_v2245) := by
  have hk := StableHlo.Ascending.eq_binary Cert.KernelIdeal.Hand.KOps_asc (Cert.KernelIdeal.Hand.Wl m ρ c) (Cert.KernelIdeal.Hand.mem_KOps_st9 (Cert.KernelIdeal.Hand.mem_st_9_8 (List.getElem_mem (l := Cert.KernelIdeal.GenP.hostOps9_8 (F := Ideal)) (n := 17) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part45 (List.getElem_mem (l := Cert.ReferenceIdeal.Hand.ops_part45 (F := Ideal)) (n := 27) (by decide))) rfl rfl rfl (by decide) (by decide) (ha := ⟨by decide, rfl⟩) (hb := ⟨by decide, rfl⟩) (hy := ⟨by decide, rfl⟩)
  rw [hk, hr, ← c_main_v24__main_v2221 hag hel, ← c_main_v778__main_v2244 hag hel]

theorem c_main_v780__main_v2246 : StableHlo.after Cert.KernelIdeal.Hand.KOps (Cert.KernelIdeal.Hand.Wl (F := Ideal) m ρ c) (Proc.devRef .tc Cert.KernelIdeal.main_v780) = StableHlo.after (Cert.ReferenceIdeal.Hand.ops (F := Ideal)) (StableHlo.launchContents m' c) (Proc.devRef .tc Cert.ReferenceIdeal.main_v2246) := by
  have hk := StableHlo.Ascending.eq_unary Cert.KernelIdeal.Hand.KOps_asc (Cert.KernelIdeal.Hand.Wl m ρ c) (Cert.KernelIdeal.Hand.mem_KOps_st9 (Cert.KernelIdeal.Hand.mem_st_9_8 (List.getElem_mem (l := Cert.KernelIdeal.GenP.hostOps9_8 (F := Ideal)) (n := 18) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part45 (List.getElem_mem (l := Cert.ReferenceIdeal.Hand.ops_part45 (F := Ideal)) (n := 28) (by decide))) rfl rfl (by decide) (hx := ⟨by decide, rfl⟩) (hy := ⟨by decide, rfl⟩)
  rw [hk, hr, ← c_main_v777__main_v2243 hag hel]

theorem c_main_v781__main_v2247 : StableHlo.after Cert.KernelIdeal.Hand.KOps (Cert.KernelIdeal.Hand.Wl (F := Ideal) m ρ c) (Proc.devRef .tc Cert.KernelIdeal.main_v781) = StableHlo.after (Cert.ReferenceIdeal.Hand.ops (F := Ideal)) (StableHlo.launchContents m' c) (Proc.devRef .tc Cert.ReferenceIdeal.main_v2247) := by
  have hk := StableHlo.Ascending.eq_binary Cert.KernelIdeal.Hand.KOps_asc (Cert.KernelIdeal.Hand.Wl m ρ c) (Cert.KernelIdeal.Hand.mem_KOps_st9 (Cert.KernelIdeal.Hand.mem_st_9_8 (List.getElem_mem (l := Cert.KernelIdeal.GenP.hostOps9_8 (F := Ideal)) (n := 19) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part45 (List.getElem_mem (l := Cert.ReferenceIdeal.Hand.ops_part45 (F := Ideal)) (n := 29) (by decide))) rfl rfl rfl (by decide) (by decide) (ha := ⟨by decide, rfl⟩) (hb := ⟨by decide, rfl⟩) (hy := ⟨by decide, rfl⟩)
  rw [hk, hr, ← c_main_v766__main_v2232 hag hel, ← c_main_v780__main_v2246 hag hel]

theorem c_main_cst_150__main_cst_474 : StableHlo.after Cert.KernelIdeal.Hand.KOps (Cert.KernelIdeal.Hand.Wl (F := Ideal) m ρ c) (Proc.devRef .tc Cert.KernelIdeal.main_cst_150) = StableHlo.after (Cert.ReferenceIdeal.Hand.ops (F := Ideal)) (StableHlo.launchContents m' c) (Proc.devRef .tc Cert.ReferenceIdeal.main_cst_474) := by
  have hk := StableHlo.Ascending.eq_nullary Cert.KernelIdeal.Hand.KOps_asc (Cert.KernelIdeal.Hand.Wl m ρ c) (Cert.KernelIdeal.Hand.mem_KOps_st9 (Cert.KernelIdeal.Hand.mem_st_9_8 (List.getElem_mem (l := Cert.KernelIdeal.GenP.hostOps9_8 (F := Ideal)) (n := 20) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part45 (List.getElem_mem (l := Cert.ReferenceIdeal.Hand.ops_part45 (F := Ideal)) (n := 30) (by decide))) rfl (hy := ⟨by decide, rfl⟩)
  rw [hk, hr]

theorem c_main_call31_v0__main_call106_v0 : StableHlo.after Cert.KernelIdeal.Hand.KOps (Cert.KernelIdeal.Hand.Wl (F := Ideal) m ρ c) (Proc.devRef .tc Cert.KernelIdeal.main_call31_v0) = StableHlo.after (Cert.ReferenceIdeal.Hand.ops (F := Ideal)) (StableHlo.launchContents m' c) (Proc.devRef .tc Cert.ReferenceIdeal.main_call106_v0) := by
  have hk := StableHlo.Ascending.eq_unary Cert.KernelIdeal.Hand.KOps_asc (Cert.KernelIdeal.Hand.Wl m ρ c) (Cert.KernelIdeal.Hand.mem_KOps_st9 (Cert.KernelIdeal.Hand.mem_st_9_9 (List.getElem_mem (l := Cert.KernelIdeal.GenP.hostOps9_9 (F := Ideal)) (n := 0) (by decide)))) rfl rfl (by decide) (x := Cert.KernelIdeal.main_cst_150) (y := Cert.KernelIdeal.main_call31_v0) (f := open Cert.KernelIdeal Cert.KernelIdeal.Gen in id) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part45 (List.getElem_mem (l := Cert.ReferenceIdeal.Hand.ops_part45 (F := Ideal)) (n := 31) (by decide))) rfl rfl (by decide) (x := Cert.ReferenceIdeal.main_cst_474) (y := Cert.ReferenceIdeal.main_call106_v0) (f := open Cert.ReferenceIdeal Cert.ReferenceIdeal.Gen in id) (hx := ⟨by decide, rfl⟩) (hy := ⟨by decide, rfl⟩)
  rw [hk, hr, ← c_main_cst_150__main_cst_474 hag hel]

theorem c_main_call31_v1__main_call106_v1 : StableHlo.after Cert.KernelIdeal.Hand.KOps (Cert.KernelIdeal.Hand.Wl (F := Ideal) m ρ c) (Proc.devRef .tc Cert.KernelIdeal.main_call31_v1) = StableHlo.after (Cert.ReferenceIdeal.Hand.ops (F := Ideal)) (StableHlo.launchContents m' c) (Proc.devRef .tc Cert.ReferenceIdeal.main_call106_v1) := by
  have hk := StableHlo.Ascending.eq_unary Cert.KernelIdeal.Hand.KOps_asc (Cert.KernelIdeal.Hand.Wl m ρ c) (Cert.KernelIdeal.Hand.mem_KOps_st9 (Cert.KernelIdeal.Hand.mem_st_9_9 (List.getElem_mem (l := Cert.KernelIdeal.GenP.hostOps9_9 (F := Ideal)) (n := 1) (by decide)))) rfl rfl (by decide) (x := Cert.KernelIdeal.main_call31_v0) (y := Cert.KernelIdeal.main_call31_v1) (f := open Cert.KernelIdeal Cert.KernelIdeal.Gen in (broadcastInDim S2048x2048 ![] bcast_S_S2048x2048)) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part45 (List.getElem_mem (l := Cert.ReferenceIdeal.Hand.ops_part45 (F := Ideal)) (n := 32) (by decide))) rfl rfl (by decide) (x := Cert.ReferenceIdeal.main_call106_v0) (y := Cert.ReferenceIdeal.main_call106_v1) (f := open Cert.ReferenceIdeal Cert.ReferenceIdeal.Gen in (broadcastInDim S2048x2048 ![] bcast_S_S2048x2048)) (hx := ⟨by decide, rfl⟩) (hy := ⟨by decide, rfl⟩)
  rw [hk, hr, ← c_main_call31_v0__main_call106_v0 hag hel]

theorem c_main_v782__main_v2248 : StableHlo.after Cert.KernelIdeal.Hand.KOps (Cert.KernelIdeal.Hand.Wl (F := Ideal) m ρ c) (Proc.devRef .tc Cert.KernelIdeal.main_v782) = StableHlo.after (Cert.ReferenceIdeal.Hand.ops (F := Ideal)) (StableHlo.launchContents m' c) (Proc.devRef .tc Cert.ReferenceIdeal.main_v2248) := by
  have hk := StableHlo.Ascending.eq_ternary Cert.KernelIdeal.Hand.KOps_asc (Cert.KernelIdeal.Hand.Wl m ρ c) (Cert.KernelIdeal.Hand.mem_KOps_st9 (Cert.KernelIdeal.Hand.mem_st_9_9 (List.getElem_mem (l := Cert.KernelIdeal.GenP.hostOps9_9 (F := Ideal)) (n := 2) (by decide)))) rfl rfl rfl rfl (by decide) (by decide) (by decide) (c := Cert.KernelIdeal.main_v779) (a := Cert.KernelIdeal.main_v781) (b := Cert.KernelIdeal.main_call31_v1) (y := Cert.KernelIdeal.main_v782) (f := (select : (⟨Cert.KernelIdeal.S2048x2048, .i1⟩ : BufTy).Contents (Elt Ideal) → (⟨Cert.KernelIdeal.S2048x2048, .f32⟩ : BufTy).Contents (Elt Ideal) → (⟨Cert.KernelIdeal.S2048x2048, .f32⟩ : BufTy).Contents (Elt Ideal) → (⟨Cert.KernelIdeal.S2048x2048, .f32⟩ : BufTy).Contents (Elt Ideal))) (hc := ⟨by decide, rfl⟩) (ha := ⟨by decide, rfl⟩) (hb := ⟨by decide, rfl⟩) (hy := ⟨by decide, rfl⟩)
  have hr := StableHlo.Ascending.eq_ternary (Cert.ReferenceIdeal.Hand.ops_asc (F := Ideal)) (StableHlo.launchContents m' c) (Cert.ReferenceIdeal.Hand.mem_ops_part45 (List.getElem_mem (l := Cert.ReferenceIdeal.Hand.ops_part45 (F := Ideal)) (n := 33) (by decide))) rfl rfl rfl rfl (by decide) (by decide) (by decide) (c := Cert.ReferenceIdeal.main_v2245) (a := Cert.ReferenceIdeal.main_v2247) (b := Cert.ReferenceIdeal.main_call106_v1) (y := Cert.ReferenceIdeal.main_v2248) (f := (select : (⟨Cert.ReferenceIdeal.S2048x2048, .i1⟩ : BufTy).Contents (Elt Ideal) → (⟨Cert.ReferenceIdeal.S2048x2048, .f32⟩ : BufTy).Contents (Elt Ideal) → (⟨Cert.ReferenceIdeal.S2048x2048, .f32⟩ : BufTy).Contents (Elt Ideal) → (⟨Cert.ReferenceIdeal.S2048x2048, .f32⟩ : BufTy).Contents (Elt Ideal))) (hc := ⟨by decide, rfl⟩) (ha := ⟨by decide, rfl⟩) (hb := ⟨by decide, rfl⟩) (hy := ⟨by decide, rfl⟩)
  rw [hk, hr, ← c_main_v779__main_v2245 hag hel, ← c_main_v781__main_v2247 hag hel, ← c_main_call31_v1__main_call106_v1 hag hel]

theorem c_main_cst_151__main_cst_475 : StableHlo.after Cert.KernelIdeal.Hand.KOps (Cert.KernelIdeal.Hand.Wl (F := Ideal) m ρ c) (Proc.devRef .tc Cert.KernelIdeal.main_cst_151) = StableHlo.after (Cert.ReferenceIdeal.Hand.ops (F := Ideal)) (StableHlo.launchContents m' c) (Proc.devRef .tc Cert.ReferenceIdeal.main_cst_475) := by
  have hk := StableHlo.Ascending.eq_nullary Cert.KernelIdeal.Hand.KOps_asc (Cert.KernelIdeal.Hand.Wl m ρ c) (Cert.KernelIdeal.Hand.mem_KOps_st9 (Cert.KernelIdeal.Hand.mem_st_9_10 (List.getElem_mem (l := Cert.KernelIdeal.GenP.hostOps9_10 (F := Ideal)) (n := 0) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part45 (List.getElem_mem (l := Cert.ReferenceIdeal.Hand.ops_part45 (F := Ideal)) (n := 34) (by decide))) rfl (hy := ⟨by decide, rfl⟩)
  rw [hk, hr]

theorem c_main_v783__main_v2249 : StableHlo.after Cert.KernelIdeal.Hand.KOps (Cert.KernelIdeal.Hand.Wl (F := Ideal) m ρ c) (Proc.devRef .tc Cert.KernelIdeal.main_v783) = StableHlo.after (Cert.ReferenceIdeal.Hand.ops (F := Ideal)) (StableHlo.launchContents m' c) (Proc.devRef .tc Cert.ReferenceIdeal.main_v2249) := by
  have hk := StableHlo.Ascending.eq_binary Cert.KernelIdeal.Hand.KOps_asc (Cert.KernelIdeal.Hand.Wl m ρ c) (Cert.KernelIdeal.Hand.mem_KOps_st9 (Cert.KernelIdeal.Hand.mem_st_9_10 (List.getElem_mem (l := Cert.KernelIdeal.GenP.hostOps9_10 (F := Ideal)) (n := 1) (by decide)))) rfl rfl rfl (by decide) (by decide) (a := Cert.KernelIdeal.main_v782) (b := Cert.KernelIdeal.main_cst_151) (y := Cert.KernelIdeal.main_v783) (f := open Cert.KernelIdeal Cert.KernelIdeal.Gen in (fun x v => Host.reduce (FloatOps.maximumf (F := Ideal)) x v reducesTo_S2048x2048_S2048_d1 h_S_)) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part45 (List.getElem_mem (l := Cert.ReferenceIdeal.Hand.ops_part45 (F := Ideal)) (n := 35) (by decide))) rfl rfl rfl (by decide) (by decide) (a := Cert.ReferenceIdeal.main_v2248) (b := Cert.ReferenceIdeal.main_cst_475) (y := Cert.ReferenceIdeal.main_v2249) (f := open Cert.ReferenceIdeal Cert.ReferenceIdeal.Gen in (fun x v => Host.reduce (FloatOps.maximumf (F := Ideal)) x v reducesTo_S2048x2048_S2048_d1 h_S_)) (ha := ⟨by decide, rfl⟩) (hb := ⟨by decide, rfl⟩) (hy := ⟨by decide, rfl⟩)
  rw [hk, hr, ← c_main_v782__main_v2248 hag hel, ← c_main_cst_151__main_cst_475 hag hel]

theorem c_main_cst_152__main_cst_476 : StableHlo.after Cert.KernelIdeal.Hand.KOps (Cert.KernelIdeal.Hand.Wl (F := Ideal) m ρ c) (Proc.devRef .tc Cert.KernelIdeal.main_cst_152) = StableHlo.after (Cert.ReferenceIdeal.Hand.ops (F := Ideal)) (StableHlo.launchContents m' c) (Proc.devRef .tc Cert.ReferenceIdeal.main_cst_476) := by
  have hk := StableHlo.Ascending.eq_nullary Cert.KernelIdeal.Hand.KOps_asc (Cert.KernelIdeal.Hand.Wl m ρ c) (Cert.KernelIdeal.Hand.mem_KOps_st9 (Cert.KernelIdeal.Hand.mem_st_9_10 (List.getElem_mem (l := Cert.KernelIdeal.GenP.hostOps9_10 (F := Ideal)) (n := 2) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part45 (List.getElem_mem (l := Cert.ReferenceIdeal.Hand.ops_part45 (F := Ideal)) (n := 36) (by decide))) rfl (hy := ⟨by decide, rfl⟩)
  rw [hk, hr]

theorem c_main_v784__main_v2250 : StableHlo.after Cert.KernelIdeal.Hand.KOps (Cert.KernelIdeal.Hand.Wl (F := Ideal) m ρ c) (Proc.devRef .tc Cert.KernelIdeal.main_v784) = StableHlo.after (Cert.ReferenceIdeal.Hand.ops (F := Ideal)) (StableHlo.launchContents m' c) (Proc.devRef .tc Cert.ReferenceIdeal.main_v2250) := by
  have hk := StableHlo.Ascending.eq_unary Cert.KernelIdeal.Hand.KOps_asc (Cert.KernelIdeal.Hand.Wl m ρ c) (Cert.KernelIdeal.Hand.mem_KOps_st9 (Cert.KernelIdeal.Hand.mem_st_9_10 (List.getElem_mem (l := Cert.KernelIdeal.GenP.hostOps9_10 (F := Ideal)) (n := 3) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part45 (List.getElem_mem (l := Cert.ReferenceIdeal.Hand.ops_part45 (F := Ideal)) (n := 37) (by decide))) rfl rfl (by decide) (hx := ⟨by decide, rfl⟩) (hy := ⟨by decide, rfl⟩)
  rw [hk, hr, ← c_main_cst_152__main_cst_476 hag hel]

theorem c_main_v785__main_v2251 : StableHlo.after Cert.KernelIdeal.Hand.KOps (Cert.KernelIdeal.Hand.Wl (F := Ideal) m ρ c) (Proc.devRef .tc Cert.KernelIdeal.main_v785) = StableHlo.after (Cert.ReferenceIdeal.Hand.ops (F := Ideal)) (StableHlo.launchContents m' c) (Proc.devRef .tc Cert.ReferenceIdeal.main_v2251) := by
  have hk := StableHlo.Ascending.eq_binary Cert.KernelIdeal.Hand.KOps_asc (Cert.KernelIdeal.Hand.Wl m ρ c) (Cert.KernelIdeal.Hand.mem_KOps_st9 (Cert.KernelIdeal.Hand.mem_st_9_10 (List.getElem_mem (l := Cert.KernelIdeal.GenP.hostOps9_10 (F := Ideal)) (n := 4) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part45 (List.getElem_mem (l := Cert.ReferenceIdeal.Hand.ops_part45 (F := Ideal)) (n := 38) (by decide))) rfl rfl rfl (by decide) (by decide) (ha := ⟨by decide, rfl⟩) (hb := ⟨by decide, rfl⟩) (hy := ⟨by decide, rfl⟩)
  rw [hk, hr, ← c_main_v784__main_v2250 hag hel, ← c_main_v783__main_v2249 hag hel]

theorem c_main_v786__main_v2252 : StableHlo.after Cert.KernelIdeal.Hand.KOps (Cert.KernelIdeal.Hand.Wl (F := Ideal) m ρ c) (Proc.devRef .tc Cert.KernelIdeal.main_v786) = StableHlo.after (Cert.ReferenceIdeal.Hand.ops (F := Ideal)) (StableHlo.launchContents m' c) (Proc.devRef .tc Cert.ReferenceIdeal.main_v2252) := by
  have hk := StableHlo.Ascending.eq_unary Cert.KernelIdeal.Hand.KOps_asc (Cert.KernelIdeal.Hand.Wl m ρ c) (Cert.KernelIdeal.Hand.mem_KOps_st9 (Cert.KernelIdeal.Hand.mem_st_9_10 (List.getElem_mem (l := Cert.KernelIdeal.GenP.hostOps9_10 (F := Ideal)) (n := 5) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part45 (List.getElem_mem (l := Cert.ReferenceIdeal.Hand.ops_part45 (F := Ideal)) (n := 39) (by decide))) rfl rfl (by decide) (hx := ⟨by decide, rfl⟩) (hy := ⟨by decide, rfl⟩)
  rw [hk, hr, ← c_main_v785__main_v2251 hag hel]

theorem c_main_v787__main_v2253 : StableHlo.after Cert.KernelIdeal.Hand.KOps (Cert.KernelIdeal.Hand.Wl (F := Ideal) m ρ c) (Proc.devRef .tc Cert.KernelIdeal.main_v787) = StableHlo.after (Cert.ReferenceIdeal.Hand.ops (F := Ideal)) (StableHlo.launchContents m' c) (Proc.devRef .tc Cert.ReferenceIdeal.main_v2253) := by
  have hk := StableHlo.Ascending.eq_unary Cert.KernelIdeal.Hand.KOps_asc (Cert.KernelIdeal.Hand.Wl m ρ c) (Cert.KernelIdeal.Hand.mem_KOps_st9 (Cert.KernelIdeal.Hand.mem_st_9_10 (List.getElem_mem (l := Cert.KernelIdeal.GenP.hostOps9_10 (F := Ideal)) (n := 6) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part45 (List.getElem_mem (l := Cert.ReferenceIdeal.Hand.ops_part45 (F := Ideal)) (n := 40) (by decide))) rfl rfl (by decide) (hx := ⟨by decide, rfl⟩) (hy := ⟨by decide, rfl⟩)
  rw [hk, hr, ← c_main_v786__main_v2252 hag hel]

theorem c_main_v788__main_v2254 : StableHlo.after Cert.KernelIdeal.Hand.KOps (Cert.KernelIdeal.Hand.Wl (F := Ideal) m ρ c) (Proc.devRef .tc Cert.KernelIdeal.main_v788) = StableHlo.after (Cert.ReferenceIdeal.Hand.ops (F := Ideal)) (StableHlo.launchContents m' c) (Proc.devRef .tc Cert.ReferenceIdeal.main_v2254) := by
  have hk := StableHlo.Ascending.eq_binary Cert.KernelIdeal.Hand.KOps_asc (Cert.KernelIdeal.Hand.Wl m ρ c) (Cert.KernelIdeal.Hand.mem_KOps_st9 (Cert.KernelIdeal.Hand.mem_st_9_10 (List.getElem_mem (l := Cert.KernelIdeal.GenP.hostOps9_10 (F := Ideal)) (n := 7) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part45 (List.getElem_mem (l := Cert.ReferenceIdeal.Hand.ops_part45 (F := Ideal)) (n := 41) (by decide))) rfl rfl rfl (by decide) (by decide) (ha := ⟨by decide, rfl⟩) (hb := ⟨by decide, rfl⟩) (hy := ⟨by decide, rfl⟩)
  rw [hk, hr, ← c_main_v782__main_v2248 hag hel, ← c_main_v787__main_v2253 hag hel]

theorem c_main_v789__main_v2255 : StableHlo.after Cert.KernelIdeal.Hand.KOps (Cert.KernelIdeal.Hand.Wl (F := Ideal) m ρ c) (Proc.devRef .tc Cert.KernelIdeal.main_v789) = StableHlo.after (Cert.ReferenceIdeal.Hand.ops (F := Ideal)) (StableHlo.launchContents m' c) (Proc.devRef .tc Cert.ReferenceIdeal.main_v2255) := by
  have hk := StableHlo.Ascending.eq_unary Cert.KernelIdeal.Hand.KOps_asc (Cert.KernelIdeal.Hand.Wl m ρ c) (Cert.KernelIdeal.Hand.mem_KOps_st9 (Cert.KernelIdeal.Hand.mem_st_9_10 (List.getElem_mem (l := Cert.KernelIdeal.GenP.hostOps9_10 (F := Ideal)) (n := 8) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part45 (List.getElem_mem (l := Cert.ReferenceIdeal.Hand.ops_part45 (F := Ideal)) (n := 42) (by decide))) rfl rfl (by decide) (hx := ⟨by decide, rfl⟩) (hy := ⟨by decide, rfl⟩)
  rw [hk, hr, ← c_main_v788__main_v2254 hag hel]

theorem c_main_cst_153__main_cst_477 : StableHlo.after Cert.KernelIdeal.Hand.KOps (Cert.KernelIdeal.Hand.Wl (F := Ideal) m ρ c) (Proc.devRef .tc Cert.KernelIdeal.main_cst_153) = StableHlo.after (Cert.ReferenceIdeal.Hand.ops (F := Ideal)) (StableHlo.launchContents m' c) (Proc.devRef .tc Cert.ReferenceIdeal.main_cst_477) := by
  have hk := StableHlo.Ascending.eq_nullary Cert.KernelIdeal.Hand.KOps_asc (Cert.KernelIdeal.Hand.Wl m ρ c) (Cert.KernelIdeal.Hand.mem_KOps_st9 (Cert.KernelIdeal.Hand.mem_st_9_10 (List.getElem_mem (l := Cert.KernelIdeal.GenP.hostOps9_10 (F := Ideal)) (n := 9) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part45 (List.getElem_mem (l := Cert.ReferenceIdeal.Hand.ops_part45 (F := Ideal)) (n := 43) (by decide))) rfl (hy := ⟨by decide, rfl⟩)
  rw [hk, hr]

theorem c_main_v790__main_v2256 : StableHlo.after Cert.KernelIdeal.Hand.KOps (Cert.KernelIdeal.Hand.Wl (F := Ideal) m ρ c) (Proc.devRef .tc Cert.KernelIdeal.main_v790) = StableHlo.after (Cert.ReferenceIdeal.Hand.ops (F := Ideal)) (StableHlo.launchContents m' c) (Proc.devRef .tc Cert.ReferenceIdeal.main_v2256) := by
  have hk := StableHlo.Ascending.eq_binary Cert.KernelIdeal.Hand.KOps_asc (Cert.KernelIdeal.Hand.Wl m ρ c) (Cert.KernelIdeal.Hand.mem_KOps_st9 (Cert.KernelIdeal.Hand.mem_st_9_10 (List.getElem_mem (l := Cert.KernelIdeal.GenP.hostOps9_10 (F := Ideal)) (n := 10) (by decide)))) rfl rfl rfl (by decide) (by decide) (a := Cert.KernelIdeal.main_v789) (b := Cert.KernelIdeal.main_cst_153) (y := Cert.KernelIdeal.main_v790) (f := open Cert.KernelIdeal Cert.KernelIdeal.Gen in (fun x v => Host.reduceAdd (F := Ideal) x v reducesTo_S2048x2048_S2048_d1 h_S_)) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part45 (List.getElem_mem (l := Cert.ReferenceIdeal.Hand.ops_part45 (F := Ideal)) (n := 44) (by decide))) rfl rfl rfl (by decide) (by decide) (a := Cert.ReferenceIdeal.main_v2255) (b := Cert.ReferenceIdeal.main_cst_477) (y := Cert.ReferenceIdeal.main_v2256) (f := open Cert.ReferenceIdeal Cert.ReferenceIdeal.Gen in (fun x v => Host.reduceAdd (F := Ideal) x v reducesTo_S2048x2048_S2048_d1 h_S_)) (ha := ⟨by decide, rfl⟩) (hb := ⟨by decide, rfl⟩) (hy := ⟨by decide, rfl⟩)
  rw [hk, hr, ← c_main_v789__main_v2255 hag hel, ← c_main_cst_153__main_cst_477 hag hel]

theorem c_main_v791__main_v2257 : StableHlo.after Cert.KernelIdeal.Hand.KOps (Cert.KernelIdeal.Hand.Wl (F := Ideal) m ρ c) (Proc.devRef .tc Cert.KernelIdeal.main_v791) = StableHlo.after (Cert.ReferenceIdeal.Hand.ops (F := Ideal)) (StableHlo.launchContents m' c) (Proc.devRef .tc Cert.ReferenceIdeal.main_v2257) := by
  have hk := StableHlo.Ascending.eq_unary Cert.KernelIdeal.Hand.KOps_asc (Cert.KernelIdeal.Hand.Wl m ρ c) (Cert.KernelIdeal.Hand.mem_KOps_st9 (Cert.KernelIdeal.Hand.mem_st_9_10 (List.getElem_mem (l := Cert.KernelIdeal.GenP.hostOps9_10 (F := Ideal)) (n := 11) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part45 (List.getElem_mem (l := Cert.ReferenceIdeal.Hand.ops_part45 (F := Ideal)) (n := 45) (by decide))) rfl rfl (by decide) (hx := ⟨by decide, rfl⟩) (hy := ⟨by decide, rfl⟩)
  rw [hk, hr, ← c_main_v790__main_v2256 hag hel]

theorem c_main_v792__main_v2258 : StableHlo.after Cert.KernelIdeal.Hand.KOps (Cert.KernelIdeal.Hand.Wl (F := Ideal) m ρ c) (Proc.devRef .tc Cert.KernelIdeal.main_v792) = StableHlo.after (Cert.ReferenceIdeal.Hand.ops (F := Ideal)) (StableHlo.launchContents m' c) (Proc.devRef .tc Cert.ReferenceIdeal.main_v2258) := by
  have hk := StableHlo.Ascending.eq_unary Cert.KernelIdeal.Hand.KOps_asc (Cert.KernelIdeal.Hand.Wl m ρ c) (Cert.KernelIdeal.Hand.mem_KOps_st9 (Cert.KernelIdeal.Hand.mem_st_9_10 (List.getElem_mem (l := Cert.KernelIdeal.GenP.hostOps9_10 (F := Ideal)) (n := 12) (by decide)))) rfl rfl (by decide) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part45 (List.getElem_mem (l := Cert.ReferenceIdeal.Hand.ops_part45 (F := Ideal)) (n := 46) (by decide))) rfl rfl (by decide) (hx := ⟨by decide, rfl⟩) (hy := ⟨by decide, rfl⟩)
  rw [hk, hr, ← c_main_v791__main_v2257 hag hel]

theorem c_main_v793__main_v2259 : StableHlo.after Cert.KernelIdeal.Hand.KOps (Cert.KernelIdeal.Hand.Wl (F := Ideal) m ρ c) (Proc.devRef .tc Cert.KernelIdeal.main_v793) = StableHlo.after (Cert.ReferenceIdeal.Hand.ops (F := Ideal)) (StableHlo.launchContents m' c) (Proc.devRef .tc Cert.ReferenceIdeal.main_v2259) := by
  have hk := StableHlo.Ascending.eq_binary Cert.KernelIdeal.Hand.KOps_asc (Cert.KernelIdeal.Hand.Wl m ρ c) (Cert.KernelIdeal.Hand.mem_KOps_st9 (Cert.KernelIdeal.Hand.mem_st_9_10 (List.getElem_mem (l := Cert.KernelIdeal.GenP.hostOps9_10 (F := Ideal)) (n := 13) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part45 (List.getElem_mem (l := Cert.ReferenceIdeal.Hand.ops_part45 (F := Ideal)) (n := 47) (by decide))) rfl rfl rfl (by decide) (by decide) (ha := ⟨by decide, rfl⟩) (hb := ⟨by decide, rfl⟩) (hy := ⟨by decide, rfl⟩)
  rw [hk, hr, ← c_main_v789__main_v2255 hag hel, ← c_main_v792__main_v2258 hag hel]

theorem c_main_v794__main_v2260 : StableHlo.after Cert.KernelIdeal.Hand.KOps (Cert.KernelIdeal.Hand.Wl (F := Ideal) m ρ c) (Proc.devRef .tc Cert.KernelIdeal.main_v794) = StableHlo.after (Cert.ReferenceIdeal.Hand.ops (F := Ideal)) (StableHlo.launchContents m' c) (Proc.devRef .tc Cert.ReferenceIdeal.main_v2260) := by
  have hk := StableHlo.Ascending.eq_unary Cert.KernelIdeal.Hand.KOps_asc (Cert.KernelIdeal.Hand.Wl m ρ c) (Cert.KernelIdeal.Hand.mem_KOps_st9 (Cert.KernelIdeal.Hand.mem_st_9_10 (List.getElem_mem (l := Cert.KernelIdeal.GenP.hostOps9_10 (F := Ideal)) (n := 14) (by decide)))) rfl rfl (by decide) (x := Cert.KernelIdeal.main_v793) (y := Cert.KernelIdeal.main_v794) (f := open Cert.KernelIdeal Cert.KernelIdeal.Gen in (transpose S2048x2048 [1, 0] · transposes_S2048x2048_S2048x2048_1_0)) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part45 (List.getElem_mem (l := Cert.ReferenceIdeal.Hand.ops_part45 (F := Ideal)) (n := 48) (by decide))) rfl rfl (by decide) (x := Cert.ReferenceIdeal.main_v2259) (y := Cert.ReferenceIdeal.main_v2260) (f := open Cert.ReferenceIdeal Cert.ReferenceIdeal.Gen in (transpose S2048x2048 [1, 0] · transposes_S2048x2048_S2048x2048_1_0)) (hx := ⟨by decide, rfl⟩) (hy := ⟨by decide, rfl⟩)
  rw [hk, hr, ← c_main_v793__main_v2259 hag hel]

end Cert.Value

end
-- ==== Proof.Val.C022.lean ====
/- Steps C022 of the value claim's chain: for each listed pair, the kernel program's buffer and its reference twin hold equal contents at the two programs' final
   valuations — the two operations are the same function (read off the two operation lists) of operands already paired. A table; written by: bun scratch/corr.js 60 -/
import proofs.«146970_j35948876268088_1_alg».proof.Proof.Val.Seed
import proofs.«146970_j35948876268088_1_alg».proof.Proof.KI.Dots
import Mathlib.Tactic.FinCases
import proofs.«146970_j35948876268088_1_alg».proof.Proof.Val.C021

set_option maxRecDepth 16384

noncomputable section

namespace Cert.Value

open Idealize.ShloMosaic Idealize.ShloMosaic.TcCoe Idealize.SL.Sem

variable {m : (ℓ : Loc Cert.KernelIdeal.nD Cert.KernelIdeal.τ Cert.KernelIdeal.sig) → Buf (Elt Ideal) ℓ} {ρ : Dev Cert.KernelIdeal.nD → PrngReg}
  {m' : (ℓ : Loc Cert.ReferenceIdeal.nD Cert.ReferenceIdeal.τ Cert.ReferenceIdeal.sig) → Buf (Elt Ideal) ℓ} {c : Dev Cert.KernelIdeal.nD} (hag : Agree m m') (hel : Els m' c)
include hag hel

theorem c_main_v795__main_v2261 : StableHlo.after Cert.KernelIdeal.Hand.KOps (Cert.KernelIdeal.Hand.Wl (F := Ideal) m ρ c) (Proc.devRef .tc Cert.KernelIdeal.main_v795) = StableHlo.after (Cert.ReferenceIdeal.Hand.ops (F := Ideal)) (StableHlo.launchContents m' c) (Proc.devRef .tc Cert.ReferenceIdeal.main_v2261) := by
  have hk := StableHlo.Ascending.eq_binary Cert.KernelIdeal.Hand.KOps_asc (Cert.KernelIdeal.Hand.Wl m ρ c) (Cert.KernelIdeal.Hand.mem_KOps_st9 (Cert.KernelIdeal.Hand.mem_st_9_10 (List.getElem_mem (l := Cert.KernelIdeal.GenP.hostOps9_10 (F := Ideal)) (n := 15) (by decide)))) rfl rfl rfl (by decide) (by decide) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part45 (List.getElem_mem (l := Cert.ReferenceIdeal.Hand.ops_part45 (F := Ideal)) (n := 49) (by decide))) rfl rfl rfl (by decide) (by decide) (ha := ⟨by decide, rfl⟩) (hb := ⟨by decide, rfl⟩) (hy := ⟨by decide, rfl⟩)
  rw [hk, hr, ← c_main_v794__main_v2260 hag hel, ← c_main_v755__main_v2220 hag hel]
  rfl

theorem c_main_call32_cst__main_call107_cst : StableHlo.after Cert.KernelIdeal.Hand.KOps (Cert.KernelIdeal.Hand.Wl (F := Ideal) m ρ c) (Proc.devRef .tc Cert.KernelIdeal.main_call32_cst) = StableHlo.after (Cert.ReferenceIdeal.Hand.ops (F := Ideal)) (StableHlo.launchContents m' c) (Proc.devRef .tc Cert.ReferenceIdeal.main_call107_cst) := by
  have hk := StableHlo.Ascending.eq_nullary Cert.KernelIdeal.Hand.KOps_asc (Cert.KernelIdeal.Hand.Wl m ρ c) (Cert.KernelIdeal.Hand.mem_KOps_st9 (Cert.KernelIdeal.Hand.mem_st_9_11 (List.getElem_mem (l := Cert.KernelIdeal.GenP.hostOps9_11 (F := Ideal)) (n := 0) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part45 (List.getElem_mem (l := Cert.ReferenceIdeal.Hand.ops_part45 (F := Ideal)) (n := 50) (by decide))) rfl (hy := ⟨by decide, rfl⟩)
  rw [hk, hr]

theorem c_main_call32_v0__main_call107_v0 : StableHlo.after Cert.KernelIdeal.Hand.KOps (Cert.KernelIdeal.Hand.Wl (F := Ideal) m ρ c) (Proc.devRef .tc Cert.KernelIdeal.main_call32_v0) = StableHlo.after (Cert.ReferenceIdeal.Hand.ops (F := Ideal)) (StableHlo.launchContents m' c) (Proc.devRef .tc Cert.ReferenceIdeal.main_call107_v0) := by
  have hk := StableHlo.Ascending.eq_unary Cert.KernelIdeal.Hand.KOps_asc (Cert.KernelIdeal.Hand.Wl m ρ c) (Cert.KernelIdeal.Hand.mem_KOps_st9 (Cert.KernelIdeal.Hand.mem_st_9_11 (List.getElem_mem (l := Cert.KernelIdeal.GenP.hostOps9_11 (F := Ideal)) (n := 1) (by decide)))) rfl rfl (by decide) (x := Cert.KernelIdeal.main_call32_cst) (y := Cert.KernelIdeal.main_call32_v0) (f := open Cert.KernelIdeal Cert.KernelIdeal.Gen in (broadcastInDim S2048x8 ![] bcast_S_S2048x8)) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part45 (List.getElem_mem (l := Cert.ReferenceIdeal.Hand.ops_part45 (F := Ideal)) (n := 51) (by decide))) rfl rfl (by decide) (x := Cert.ReferenceIdeal.main_call107_cst) (y := Cert.ReferenceIdeal.main_call107_v0) (f := open Cert.ReferenceIdeal Cert.ReferenceIdeal.Gen in (broadcastInDim S2048x8 ![] bcast_S_S2048x8)) (hx := ⟨by decide, rfl⟩) (hy := ⟨by decide, rfl⟩)
  rw [hk, hr, ← c_main_call32_cst__main_call107_cst hag hel]

theorem c_main_call32_v1__main_call107_v1 : StableHlo.after Cert.KernelIdeal.Hand.KOps (Cert.KernelIdeal.Hand.Wl (F := Ideal) m ρ c) (Proc.devRef .tc Cert.KernelIdeal.main_call32_v1) = StableHlo.after (Cert.ReferenceIdeal.Hand.ops (F := Ideal)) (StableHlo.launchContents m' c) (Proc.devRef .tc Cert.ReferenceIdeal.main_call107_v1) := by
  have hk := StableHlo.Ascending.eq_binary Cert.KernelIdeal.Hand.KOps_asc (Cert.KernelIdeal.Hand.Wl m ρ c) (Cert.KernelIdeal.Hand.mem_KOps_st9 (Cert.KernelIdeal.Hand.mem_st_9_11 (List.getElem_mem (l := Cert.KernelIdeal.GenP.hostOps9_11 (F := Ideal)) (n := 2) (by decide)))) rfl rfl rfl (by decide) (by decide) (a := Cert.KernelIdeal.main_v795) (b := Cert.KernelIdeal.main_call32_v0) (y := Cert.KernelIdeal.main_call32_v1) (f := open Cert.KernelIdeal Cert.KernelIdeal.Gen in (cmpf (F := Ideal) .ogt)) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part45 (List.getElem_mem (l := Cert.ReferenceIdeal.Hand.ops_part45 (F := Ideal)) (n := 52) (by decide))) rfl rfl rfl (by decide) (by decide) (a := Cert.ReferenceIdeal.main_v2261) (b := Cert.ReferenceIdeal.main_call107_v0) (y := Cert.ReferenceIdeal.main_call107_v1) (f := open Cert.ReferenceIdeal Cert.ReferenceIdeal.Gen in (cmpf (F := Ideal) .ogt)) (ha := ⟨by decide, rfl⟩) (hb := ⟨by decide, rfl⟩) (hy := ⟨by decide, rfl⟩)
  rw [hk, hr, ← c_main_v795__main_v2261 hag hel, ← c_main_call32_v0__main_call107_v0 hag hel]

theorem c_main_call32_cst_0__main_call107_cst_0 : StableHlo.after Cert.KernelIdeal.Hand.KOps (Cert.KernelIdeal.Hand.Wl (F := Ideal) m ρ c) (Proc.devRef .tc Cert.KernelIdeal.main_call32_cst_0) = StableHlo.after (Cert.ReferenceIdeal.Hand.ops (F := Ideal)) (StableHlo.launchContents m' c) (Proc.devRef .tc Cert.ReferenceIdeal.main_call107_cst_0) := by
  have hk := StableHlo.Ascending.eq_nullary Cert.KernelIdeal.Hand.KOps_asc (Cert.KernelIdeal.Hand.Wl m ρ c) (Cert.KernelIdeal.Hand.mem_KOps_st9 (Cert.KernelIdeal.Hand.mem_st_9_11 (List.getElem_mem (l := Cert.KernelIdeal.GenP.hostOps9_11 (F := Ideal)) (n := 3) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part45 (List.getElem_mem (l := Cert.ReferenceIdeal.Hand.ops_part45 (F := Ideal)) (n := 53) (by decide))) rfl (hy := ⟨by decide, rfl⟩)
  rw [hk, hr]

theorem c_main_call32_v2__main_call107_v2 : StableHlo.after Cert.KernelIdeal.Hand.KOps (Cert.KernelIdeal.Hand.Wl (F := Ideal) m ρ c) (Proc.devRef .tc Cert.KernelIdeal.main_call32_v2) = StableHlo.after (Cert.ReferenceIdeal.Hand.ops (F := Ideal)) (StableHlo.launchContents m' c) (Proc.devRef .tc Cert.ReferenceIdeal.main_call107_v2) := by
  have hk := StableHlo.Ascending.eq_unary Cert.KernelIdeal.Hand.KOps_asc (Cert.KernelIdeal.Hand.Wl m ρ c) (Cert.KernelIdeal.Hand.mem_KOps_st9 (Cert.KernelIdeal.Hand.mem_st_9_11 (List.getElem_mem (l := Cert.KernelIdeal.GenP.hostOps9_11 (F := Ideal)) (n := 4) (by decide)))) rfl rfl (by decide) (x := Cert.KernelIdeal.main_call32_cst_0) (y := Cert.KernelIdeal.main_call32_v2) (f := open Cert.KernelIdeal Cert.KernelIdeal.Gen in (broadcastInDim S2048x8 ![] bcast_S_S2048x8)) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part45 (List.getElem_mem (l := Cert.ReferenceIdeal.Hand.ops_part45 (F := Ideal)) (n := 54) (by decide))) rfl rfl (by decide) (x := Cert.ReferenceIdeal.main_call107_cst_0) (y := Cert.ReferenceIdeal.main_call107_v2) (f := open Cert.ReferenceIdeal Cert.ReferenceIdeal.Gen in (broadcastInDim S2048x8 ![] bcast_S_S2048x8)) (hx := ⟨by decide, rfl⟩) (hy := ⟨by decide, rfl⟩)
  rw [hk, hr, ← c_main_call32_cst_0__main_call107_cst_0 hag hel]

theorem c_main_call32_v3__main_call107_v3 : StableHlo.after Cert.KernelIdeal.Hand.KOps (Cert.KernelIdeal.Hand.Wl (F := Ideal) m ρ c) (Proc.devRef .tc Cert.KernelIdeal.main_call32_v3) = StableHlo.after (Cert.ReferenceIdeal.Hand.ops (F := Ideal)) (StableHlo.launchContents m' c) (Proc.devRef .tc Cert.ReferenceIdeal.main_call107_v3) := by
  have hk := StableHlo.Ascending.eq_binary Cert.KernelIdeal.Hand.KOps_asc (Cert.KernelIdeal.Hand.Wl m ρ c) (Cert.KernelIdeal.Hand.mem_KOps_st9 (Cert.KernelIdeal.Hand.mem_st_9_11 (List.getElem_mem (l := Cert.KernelIdeal.GenP.hostOps9_11 (F := Ideal)) (n := 5) (by decide)))) rfl rfl rfl (by decide) (by decide) (a := Cert.KernelIdeal.main_v795) (b := Cert.KernelIdeal.main_call32_v2) (y := Cert.KernelIdeal.main_call32_v3) (f := open Cert.KernelIdeal Cert.KernelIdeal.Gen in (cmpf (F := Ideal) .ogt)) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part45 (List.getElem_mem (l := Cert.ReferenceIdeal.Hand.ops_part45 (F := Ideal)) (n := 55) (by decide))) rfl rfl rfl (by decide) (by decide) (a := Cert.ReferenceIdeal.main_v2261) (b := Cert.ReferenceIdeal.main_call107_v2) (y := Cert.ReferenceIdeal.main_call107_v3) (f := open Cert.ReferenceIdeal Cert.ReferenceIdeal.Gen in (cmpf (F := Ideal) .ogt)) (ha := ⟨by decide, rfl⟩) (hb := ⟨by decide, rfl⟩) (hy := ⟨by decide, rfl⟩)
  rw [hk, hr, ← c_main_v795__main_v2261 hag hel, ← c_main_call32_v2__main_call107_v2 hag hel]

theorem c_main_call32_cst_1__main_call107_cst_1 : StableHlo.after Cert.KernelIdeal.Hand.KOps (Cert.KernelIdeal.Hand.Wl (F := Ideal) m ρ c) (Proc.devRef .tc Cert.KernelIdeal.main_call32_cst_1) = StableHlo.after (Cert.ReferenceIdeal.Hand.ops (F := Ideal)) (StableHlo.launchContents m' c) (Proc.devRef .tc Cert.ReferenceIdeal.main_call107_cst_1) := by
  have hk := StableHlo.Ascending.eq_nullary Cert.KernelIdeal.Hand.KOps_asc (Cert.KernelIdeal.Hand.Wl m ρ c) (Cert.KernelIdeal.Hand.mem_KOps_st9 (Cert.KernelIdeal.Hand.mem_st_9_11 (List.getElem_mem (l := Cert.KernelIdeal.GenP.hostOps9_11 (F := Ideal)) (n := 6) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part45 (List.getElem_mem (l := Cert.ReferenceIdeal.Hand.ops_part45 (F := Ideal)) (n := 56) (by decide))) rfl (hy := ⟨by decide, rfl⟩)
  rw [hk, hr]

theorem c_main_call32_call0_v0__main_call107_call0_v0 : StableHlo.after Cert.KernelIdeal.Hand.KOps (Cert.KernelIdeal.Hand.Wl (F := Ideal) m ρ c) (Proc.devRef .tc Cert.KernelIdeal.main_call32_call0_v0) = StableHlo.after (Cert.ReferenceIdeal.Hand.ops (F := Ideal)) (StableHlo.launchContents m' c) (Proc.devRef .tc Cert.ReferenceIdeal.main_call107_call0_v0) := by
  have hk := StableHlo.Ascending.eq_unary Cert.KernelIdeal.Hand.KOps_asc (Cert.KernelIdeal.Hand.Wl m ρ c) (Cert.KernelIdeal.Hand.mem_KOps_st9 (Cert.KernelIdeal.Hand.mem_st_9_11 (List.getElem_mem (l := Cert.KernelIdeal.GenP.hostOps9_11 (F := Ideal)) (n := 7) (by decide)))) rfl rfl (by decide) (x := Cert.KernelIdeal.main_call32_cst_1) (y := Cert.KernelIdeal.main_call32_call0_v0) (f := open Cert.KernelIdeal Cert.KernelIdeal.Gen in id) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part45 (List.getElem_mem (l := Cert.ReferenceIdeal.Hand.ops_part45 (F := Ideal)) (n := 57) (by decide))) rfl rfl (by decide) (x := Cert.ReferenceIdeal.main_call107_cst_1) (y := Cert.ReferenceIdeal.main_call107_call0_v0) (f := open Cert.ReferenceIdeal Cert.ReferenceIdeal.Gen in id) (hx := ⟨by decide, rfl⟩) (hy := ⟨by decide, rfl⟩)
  rw [hk, hr, ← c_main_call32_cst_1__main_call107_cst_1 hag hel]

theorem c_main_call32_call0_v1__main_call107_call0_v1 : StableHlo.after Cert.KernelIdeal.Hand.KOps (Cert.KernelIdeal.Hand.Wl (F := Ideal) m ρ c) (Proc.devRef .tc Cert.KernelIdeal.main_call32_call0_v1) = StableHlo.after (Cert.ReferenceIdeal.Hand.ops (F := Ideal)) (StableHlo.launchContents m' c) (Proc.devRef .tc Cert.ReferenceIdeal.main_call107_call0_v1) := by
  have hk := StableHlo.Ascending.eq_unary Cert.KernelIdeal.Hand.KOps_asc (Cert.KernelIdeal.Hand.Wl m ρ c) (Cert.KernelIdeal.Hand.mem_KOps_st9 (Cert.KernelIdeal.Hand.mem_st_9_11 (List.getElem_mem (l := Cert.KernelIdeal.GenP.hostOps9_11 (F := Ideal)) (n := 8) (by decide)))) rfl rfl (by decide) (x := Cert.KernelIdeal.main_call32_call0_v0) (y := Cert.KernelIdeal.main_call32_call0_v1) (f := open Cert.KernelIdeal Cert.KernelIdeal.Gen in (broadcastInDim S2048x8 ![] bcast_S_S2048x8)) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part45 (List.getElem_mem (l := Cert.ReferenceIdeal.Hand.ops_part45 (F := Ideal)) (n := 58) (by decide))) rfl rfl (by decide) (x := Cert.ReferenceIdeal.main_call107_call0_v0) (y := Cert.ReferenceIdeal.main_call107_call0_v1) (f := open Cert.ReferenceIdeal Cert.ReferenceIdeal.Gen in (broadcastInDim S2048x8 ![] bcast_S_S2048x8)) (hx := ⟨by decide, rfl⟩) (hy := ⟨by decide, rfl⟩)
  rw [hk, hr, ← c_main_call32_call0_v0__main_call107_call0_v0 hag hel]

theorem c_main_call32_v4__main_call107_v4 : StableHlo.after Cert.KernelIdeal.Hand.KOps (Cert.KernelIdeal.Hand.Wl (F := Ideal) m ρ c) (Proc.devRef .tc Cert.KernelIdeal.main_call32_v4) = StableHlo.after (Cert.ReferenceIdeal.Hand.ops (F := Ideal)) (StableHlo.launchContents m' c) (Proc.devRef .tc Cert.ReferenceIdeal.main_call107_v4) := by
  have hk := StableHlo.Ascending.eq_ternary Cert.KernelIdeal.Hand.KOps_asc (Cert.KernelIdeal.Hand.Wl m ρ c) (Cert.KernelIdeal.Hand.mem_KOps_st9 (Cert.KernelIdeal.Hand.mem_st_9_11 (List.getElem_mem (l := Cert.KernelIdeal.GenP.hostOps9_11 (F := Ideal)) (n := 9) (by decide)))) rfl rfl rfl rfl (by decide) (by decide) (by decide) (c := Cert.KernelIdeal.main_call32_v3) (a := Cert.KernelIdeal.main_call32_call0_v1) (b := Cert.KernelIdeal.main_v795) (y := Cert.KernelIdeal.main_call32_v4) (f := (select : (⟨Cert.KernelIdeal.S2048x8, .i1⟩ : BufTy).Contents (Elt Ideal) → (⟨Cert.KernelIdeal.S2048x8, .f32⟩ : BufTy).Contents (Elt Ideal) → (⟨Cert.KernelIdeal.S2048x8, .f32⟩ : BufTy).Contents (Elt Ideal) → (⟨Cert.KernelIdeal.S2048x8, .f32⟩ : BufTy).Contents (Elt Ideal))) (hc := ⟨by decide, rfl⟩) (ha := ⟨by decide, rfl⟩) (hb := ⟨by decide, rfl⟩) (hy := ⟨by decide, rfl⟩)
  have hr := StableHlo.Ascending.eq_ternary (Cert.ReferenceIdeal.Hand.ops_asc (F := Ideal)) (StableHlo.launchContents m' c) (Cert.ReferenceIdeal.Hand.mem_ops_part45 (List.getElem_mem (l := Cert.ReferenceIdeal.Hand.ops_part45 (F := Ideal)) (n := 59) (by decide))) rfl rfl rfl rfl (by decide) (by decide) (by decide) (c := Cert.ReferenceIdeal.main_call107_v3) (a := Cert.ReferenceIdeal.main_call107_call0_v1) (b := Cert.ReferenceIdeal.main_v2261) (y := Cert.ReferenceIdeal.main_call107_v4) (f := (select : (⟨Cert.ReferenceIdeal.S2048x8, .i1⟩ : BufTy).Contents (Elt Ideal) → (⟨Cert.ReferenceIdeal.S2048x8, .f32⟩ : BufTy).Contents (Elt Ideal) → (⟨Cert.ReferenceIdeal.S2048x8, .f32⟩ : BufTy).Contents (Elt Ideal) → (⟨Cert.ReferenceIdeal.S2048x8, .f32⟩ : BufTy).Contents (Elt Ideal))) (hc := ⟨by decide, rfl⟩) (ha := ⟨by decide, rfl⟩) (hb := ⟨by decide, rfl⟩) (hy := ⟨by decide, rfl⟩)
  rw [hk, hr, ← c_main_call32_v3__main_call107_v3 hag hel, ← c_main_call32_call0_v1__main_call107_call0_v1 hag hel, ← c_main_v795__main_v2261 hag hel]

theorem c_main_call32_v5__main_call107_v5 : StableHlo.after Cert.KernelIdeal.Hand.KOps (Cert.KernelIdeal.Hand.Wl (F := Ideal) m ρ c) (Proc.devRef .tc Cert.KernelIdeal.main_call32_v5) = StableHlo.after (Cert.ReferenceIdeal.Hand.ops (F := Ideal)) (StableHlo.launchContents m' c) (Proc.devRef .tc Cert.ReferenceIdeal.main_call107_v5) := by
  have hk := StableHlo.Ascending.eq_unary Cert.KernelIdeal.Hand.KOps_asc (Cert.KernelIdeal.Hand.Wl m ρ c) (Cert.KernelIdeal.Hand.mem_KOps_st9 (Cert.KernelIdeal.Hand.mem_st_9_11 (List.getElem_mem (l := Cert.KernelIdeal.GenP.hostOps9_11 (F := Ideal)) (n := 10) (by decide)))) rfl rfl (by decide) (x := Cert.KernelIdeal.main_call32_v4) (y := Cert.KernelIdeal.main_call32_v5) (f := open Cert.KernelIdeal Cert.KernelIdeal.Gen in Host.expm1 (F := Ideal)) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part45 (List.getElem_mem (l := Cert.ReferenceIdeal.Hand.ops_part45 (F := Ideal)) (n := 60) (by decide))) rfl rfl (by decide) (x := Cert.ReferenceIdeal.main_call107_v4) (y := Cert.ReferenceIdeal.main_call107_v5) (f := open Cert.ReferenceIdeal Cert.ReferenceIdeal.Gen in Host.expm1 (F := Ideal)) (hx := ⟨by decide, rfl⟩) (hy := ⟨by decide, rfl⟩)
  rw [hk, hr, ← c_main_call32_v4__main_call107_v4 hag hel]

theorem c_main_call32_cst_2__main_call107_cst_2 : StableHlo.after Cert.KernelIdeal.Hand.KOps (Cert.KernelIdeal.Hand.Wl (F := Ideal) m ρ c) (Proc.devRef .tc Cert.KernelIdeal.main_call32_cst_2) = StableHlo.after (Cert.ReferenceIdeal.Hand.ops (F := Ideal)) (StableHlo.launchContents m' c) (Proc.devRef .tc Cert.ReferenceIdeal.main_call107_cst_2) := by
  have hk := StableHlo.Ascending.eq_nullary Cert.KernelIdeal.Hand.KOps_asc (Cert.KernelIdeal.Hand.Wl m ρ c) (Cert.KernelIdeal.Hand.mem_KOps_st9 (Cert.KernelIdeal.Hand.mem_st_9_11 (List.getElem_mem (l := Cert.KernelIdeal.GenP.hostOps9_11 (F := Ideal)) (n := 11) (by decide)))) rfl (hy := ⟨by decide, rfl⟩)
  have hr := StableHlo.Ascending.eq_nullary (Cert.ReferenceIdeal.Hand.ops_asc (F := Ideal)) (StableHlo.launchContents m' c) (Cert.ReferenceIdeal.Hand.mem_ops_part45 (List.getElem_mem (l := Cert.ReferenceIdeal.Hand.ops_part45 (F := Ideal)) (n := 61) (by decide))) rfl (hy := ⟨by decide, rfl⟩)
  rw [hk, hr]

theorem c_main_call32_v6__main_call107_v6 : StableHlo.after Cert.KernelIdeal.Hand.KOps (Cert.KernelIdeal.Hand.Wl (F := Ideal) m ρ c) (Proc.devRef .tc Cert.KernelIdeal.main_call32_v6) = StableHlo.after (Cert.ReferenceIdeal.Hand.ops (F := Ideal)) (StableHlo.launchContents m' c) (Proc.devRef .tc Cert.ReferenceIdeal.main_call107_v6) := by
  have hk := StableHlo.Ascending.eq_unary Cert.KernelIdeal.Hand.KOps_asc (Cert.KernelIdeal.Hand.Wl m ρ c) (Cert.KernelIdeal.Hand.mem_KOps_st9 (Cert.KernelIdeal.Hand.mem_st_9_11 (List.getElem_mem (l := Cert.KernelIdeal.GenP.hostOps9_11 (F := Ideal)) (n := 12) (by decide)))) rfl rfl (by decide) (x := Cert.KernelIdeal.main_call32_cst_2) (y := Cert.KernelIdeal.main_call32_v6) (f := open Cert.KernelIdeal Cert.KernelIdeal.Gen in (broadcastInDim S2048x8 ![] bcast_S_S2048x8)) (hx := ⟨by decide, rfl⟩) (hy := ⟨by decide, rfl⟩)
  have hr := StableHlo.Ascending.eq_unary (Cert.ReferenceIdeal.Hand.ops_asc (F := Ideal)) (StableHlo.launchContents m' c) (Cert.ReferenceIdeal.Hand.mem_ops_part45 (List.getElem_mem (l := Cert.ReferenceIdeal.Hand.ops_part45 (F := Ideal)) (n := 62) (by decide))) rfl rfl (by decide) (x := Cert.ReferenceIdeal.main_call107_cst_2) (y := Cert.ReferenceIdeal.main_call107_v6) (f := open Cert.ReferenceIdeal Cert.ReferenceIdeal.Gen in (broadcastInDim S2048x8 ![] bcast_S_S2048x8)) (hx := ⟨by decide, rfl⟩) (hy := ⟨by decide, rfl⟩)
  rw [hk, hr, ← c_main_call32_cst_2__main_call107_cst_2 hag hel]

theorem c_main_call32_v7__main_call107_v7 : StableHlo.after Cert.KernelIdeal.Hand.KOps (Cert.KernelIdeal.Hand.Wl (F := Ideal) m ρ c) (Proc.devRef .tc Cert.KernelIdeal.main_call32_v7) = StableHlo.after (Cert.ReferenceIdeal.Hand.ops (F := Ideal)) (StableHlo.launchContents m' c) (Proc.devRef .tc Cert.ReferenceIdeal.main_call107_v7) := by
  have hk := StableHlo.Ascending.eq_binary Cert.KernelIdeal.Hand.KOps_asc (Cert.KernelIdeal.Hand.Wl m ρ c) (Cert.KernelIdeal.Hand.mem_KOps_st9 (Cert.KernelIdeal.Hand.mem_st_9_11 (List.getElem_mem (l := Cert.KernelIdeal.GenP.hostOps9_11 (F := Ideal)) (n := 13) (by decide)))) rfl rfl rfl (by decide) (by decide) (a := Cert.KernelIdeal.main_call32_v6) (b := Cert.KernelIdeal.main_call32_v5) (y := Cert.KernelIdeal.main_call32_v7) (f := open Cert.KernelIdeal Cert.KernelIdeal.Gen in mulf (F := Ideal)) (ha := ⟨by decide, rfl⟩) (hb := ⟨by decide, rfl⟩) (hy := ⟨by decide, rfl⟩)
  have hr := StableHlo.Ascending.eq_binary (Cert.ReferenceIdeal.Hand.ops_asc (F := Ideal)) (StableHlo.launchContents m' c) (Cert.ReferenceIdeal.Hand.mem_ops_part45 (List.getElem_mem (l := Cert.ReferenceIdeal.Hand.ops_part45 (F := Ideal)) (n := 63) (by decide))) rfl rfl rfl (by decide) (by decide) (a := Cert.ReferenceIdeal.main_call107_v6) (b := Cert.ReferenceIdeal.main_call107_v5) (y := Cert.ReferenceIdeal.main_call107_v7) (f := open Cert.ReferenceIdeal Cert.ReferenceIdeal.Gen in mulf (F := Ideal)) (ha := ⟨by decide, rfl⟩) (hb := ⟨by decide, rfl⟩) (hy := ⟨by decide, rfl⟩)
  rw [hk, hr, ← c_main_call32_v6__main_call107_v6 hag hel, ← c_main_call32_v5__main_call107_v5 hag hel]

theorem c_main_v796__main_v2262 : StableHlo.after Cert.KernelIdeal.Hand.KOps (Cert.KernelIdeal.Hand.Wl (F := Ideal) m ρ c) (Proc.devRef .tc Cert.KernelIdeal.main_v796) = StableHlo.after (Cert.ReferenceIdeal.Hand.ops (F := Ideal)) (StableHlo.launchContents m' c) (Proc.devRef .tc Cert.ReferenceIdeal.main_v2262) := by
  have hk := StableHlo.Ascending.eq_ternary Cert.KernelIdeal.Hand.KOps_asc (Cert.KernelIdeal.Hand.Wl m ρ c) (Cert.KernelIdeal.Hand.mem_KOps_st9 (Cert.KernelIdeal.Hand.mem_st_9_11 (List.getElem_mem (l := Cert.KernelIdeal.GenP.hostOps9_11 (F := Ideal)) (n := 14) (by decide)))) rfl rfl rfl rfl (by decide) (by decide) (by decide) (c := Cert.KernelIdeal.main_call32_v1) (a := Cert.KernelIdeal.main_v795) (b := Cert.KernelIdeal.main_call32_v7) (y := Cert.KernelIdeal.main_v796) (f := (select : (⟨Cert.KernelIdeal.S2048x8, .i1⟩ : BufTy).Contents (Elt Ideal) → (⟨Cert.KernelIdeal.S2048x8, .f32⟩ : BufTy).Contents (Elt Ideal) → (⟨Cert.KernelIdeal.S2048x8, .f32⟩ : BufTy).Contents (Elt Ideal) → (⟨Cert.KernelIdeal.S2048x8, .f32⟩ : BufTy).Contents (Elt Ideal))) (hc := ⟨by decide, rfl⟩) (ha := ⟨by decide, rfl⟩) (hb := ⟨by decide, rfl⟩) (hy := ⟨by decide, rfl⟩)
  have hr := StableHlo.Ascending.eq_ternary (Cert.ReferenceIdeal.Hand.ops_asc (F := Ideal)) (StableHlo.launchContents m' c) (Cert.ReferenceIdeal.Hand.mem_ops_part45 (List.getElem_mem (l := Cert.ReferenceIdeal.Hand.ops_part45 (F := Ideal)) (n := 64) (by decide))) rfl rfl rfl rfl (by decide) (by decide) (by decide) (c := Cert.ReferenceIdeal.main_call107_v1) (a := Cert.ReferenceIdeal.main_v2261) (b := Cert.ReferenceIdeal.main_call107_v7) (y := Cert.ReferenceIdeal.main_v2262) (f := (select : (⟨Cert.ReferenceIdeal.S2048x8, .i1⟩ : BufTy).Contents (Elt Ideal) → (⟨Cert.ReferenceIdeal.S2048x8, .f32⟩ : BufTy).Contents (Elt Ideal) → (⟨Cert.ReferenceIdeal.S2048x8, .f32⟩ : BufTy).Contents (Elt Ideal) → (⟨Cert.ReferenceIdeal.S2048x8, .f32⟩ : BufTy).Contents (Elt Ideal))) (hc := ⟨by decide, rfl⟩) (ha := ⟨by decide, rfl⟩) (hb := ⟨by decide, rfl⟩) (hy := ⟨by decide, rfl⟩)
  rw [hk, hr, ← c_main_call32_v1__main_call107_v1 hag hel, ← c_main_v795__main_v2261 hag hel, ← c_main_call32_v7__main_call107_v7 hag hel]

end Cert.Value

end
-- ==== Proof.Algebraic.lean ====
/- The value claim. Both idealized programs run (their runs name the results). The kernel program's last valuation is the fold
   of its one operation list, the nine regions as whole-array products; the reference's result is the fold of its list. Buffer
   pair by buffer pair — each kernel buffer with the reference buffer computed by the same operations from paired operands —
   the two folds agree, down to the two result buffers; the pairs start at the argument arrays, on which the two memories
   agree, and pass the reference's transposes of its symmetric 0/1 matrices, which hold what their operands hold. -/
import proofs.«146970_j35948876268088_1_alg».proof.Defs
import proofs.«146970_j35948876268088_1_alg».proof.Proof.Gen.KernelIdeal
import proofs.«146970_j35948876268088_1_alg».proof.Proof.Gen.ReferenceIdeal
import proofs.«146970_j35948876268088_1_alg».proof.Proof.Gen.Pre_finite_inputs
import proofs.«146970_j35948876268088_1_alg».proof.Proof.KI.Chain
import proofs.«146970_j35948876268088_1_alg».proof.Proof.KI.OneList
import proofs.«146970_j35948876268088_1_alg».proof.Proof.Ref.Frame
import proofs.«146970_j35948876268088_1_alg».proof.Proof.Ref.Symm
import proofs.«146970_j35948876268088_1_alg».proof.Proof.Ref.SymmH
import proofs.«146970_j35948876268088_1_alg».proof.Proof.Val.C022

noncomputable section

namespace Cert.Proof

open Idealize.ShloMosaic Idealize.SL.Sem

/-- The two idealized programs end with equal results. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Hand.Wend (F := Ideal) m ρ c (Proc.devRef .tc Cert.KernelIdeal.main_v796),
    Cert.KernelIdeal.Hand.run (F := Ideal) m ρ, ?_⟩
  refine (θ_run (Cert.ReferenceIdeal.defs (F := Ideal)) _ _).mono (fun _ h c => ⟨(h c).1.trans ?_, (h c).2⟩)
    (Cert.ReferenceIdeal.Hand.run (F := Ideal) m' ρ')
  have hel : Cert.Value.Els m' c :=
    ⟨Cert.ReferenceIdeal.Hand.el_main_v118 m' c,
     Cert.ReferenceIdeal.Hand.el_main_v130 m' c,
     Cert.ReferenceIdeal.Hand.el_main_v1286 m' c,
     Cert.ReferenceIdeal.Hand.el_main_v1341 m' c,
     Cert.ReferenceIdeal.Hand.el_main_v1410 m' c,
     Cert.ReferenceIdeal.Hand.el_main_v1465 m' c,
     Cert.ReferenceIdeal.Hand.el_main_v1534 m' c,
     Cert.ReferenceIdeal.Hand.el_main_v1589 m' c,
     Cert.ReferenceIdeal.Hand.el_main_v1658 m' c,
     Cert.ReferenceIdeal.Hand.el_main_v1713 m' c,
     Cert.ReferenceIdeal.Hand.el_main_v2166 m' c,
     Cert.ReferenceIdeal.Hand.el_main_v2221 m' c⟩
  show StableHlo.after (Cert.ReferenceIdeal.Hand.ops (F := Ideal)) (StableHlo.launchContents m' c) (Proc.devRef .tc Cert.ReferenceIdeal.main_v2262)
    = Cert.KernelIdeal.Hand.Wend (F := Ideal) m ρ c (Proc.devRef .tc Cert.KernelIdeal.main_v796)
  rw [Cert.KernelIdeal.Hand.Wend_eq]
  exact (Cert.Value.c_main_v796__main_v2262 (m := m) (ρ := ρ) (m' := m') (c := c) hagree hel).symm

end Cert.Proof

end
-- ==== Proof.lean ====
/- The proof of the certificate's claim, assembled from its five conjuncts.

   The three frames are the three programs' runs with the result dropped. The word-level program and its idealization
   (the same text read at the two instances) run as nine kernel regions — one matmul kernel at four block shapes —
   among the host stretches between them: each region's body keeps the class invariant, its arrays are split out of the
   thread state's unscoped buffers and put back at what the write-backs of its 256×256 blocks leave (for edge·edge and
   H·H the one input array is held as two half shares), and the segment kit's launch theorem composes the segments. The
   reference is a host program: its run is the run of its 3,475 operations in order. No operation of either program
   writes an argument array. The idealization rewrote nothing, so it preserves the program trivially. The value claim is
   Proof/Algebraic.lean. -/
import proofs.«146970_j35948876268088_1_alg».proof.Defs
import proofs.«146970_j35948876268088_1_alg».proof.Proof.Gen.Kernel
import proofs.«146970_j35948876268088_1_alg».proof.Proof.Gen.KernelIdeal
import proofs.«146970_j35948876268088_1_alg».proof.Proof.Gen.ReferenceIdeal
import proofs.«146970_j35948876268088_1_alg».proof.Proof.Gen.Pre_finite_inputs
import proofs.«146970_j35948876268088_1_alg».proof.Proof.FrameK
import proofs.«146970_j35948876268088_1_alg».proof.Proof.FrameKI
import proofs.«146970_j35948876268088_1_alg».proof.Proof.FrameRI
import proofs.«146970_j35948876268088_1_alg».proof.Proof.Algebraic

noncomputable section

namespace Cert.Proof

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
